-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S100000x36 : Shape := ⟨2, ![100000, 36]⟩
abbrev S_ : Shape := ⟨0, ![]⟩

class Facts : Prop where
  bcast_S_S100000x36 : S_.BroadcastsInDim S100000x36 (![] : Fin 0 → Fin S100000x36.rank)
  reducesTo_S100000x36_S_d0_1 : S100000x36.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn_part7 {F : FTy → Type} [FloatOps F] (main_arg0 : IVec S16384x26 32) (main_arg26 : FVec F S100000x36 .f32) (main_v118 : IVec S_ 1) (main_v119 : FVec F S100000x36 .f32) : IVec S_ 1 :=
  let main_cst_46 : FVec F S_ .f32 := constant S_ .f32 0x7F800000#32
  let main_v120 : FVec F S100000x36 .f32 := broadcastInDim S100000x36 ![] bcast_S_S100000x36 main_cst_46
  let main_v121 : IVec S100000x36 1 := cmpf .olt main_v119 main_v120
  let main_c_47 : IVec S_ 1 := constantI S_ 1 1#1
  let main_v122 : IVec S_ 1 := (fun x v => Host.reduce IntOp.andi x v reducesTo_S100000x36_S_d0_1 h_S_) main_v121 main_c_47
  let main_v123 : IVec S_ 1 := andi main_v118 main_v122
  let main_v124 : FVec F S100000x36 .f32 := Host.absf main_arg26
  let main_cst_48 : FVec F S_ .f32 := constant S_ .f32 0x7F800000#32
  let main_v125 : FVec F S100000x36 .f32 := broadcastInDim S100000x36 ![] bcast_S_S100000x36 main_cst_48
  let main_v126 : IVec S100000x36 1 := cmpf .olt main_v124 main_v125
  let main_c_49 : IVec S_ 1 := constantI S_ 1 1#1
  let main_v127 : IVec S_ 1 := (fun x v => Host.reduce IntOp.andi x v reducesTo_S100000x36_S_d0_1 h_S_) main_v126 main_c_49
  let main_v128 : IVec S_ 1 := andi main_v123 main_v127
  let main_c_50 : IVec S_ 32 := constantI S_ 32 0#32
  let main_v129 : IVec S16384x26 32 := broadcastInDim S16384x26 ![] bcast_S_S16384x26 main_c_50
  let main_v130 : IVec S16384x26 1 := cmpi .sge main_arg0 main_v129
  let main_c_51 : IVec S_ 32 := constantI S_ 32 99999#32
  let main_v131 : IVec S16384x26 32 := broadcastInDim S16384x26 ![] bcast_S_S16384x26 main_c_51
  let main_v132 : IVec S16384x26 1 := cmpi .sle main_arg0 main_v131
  let main_v133 : IVec S16384x26 1 := andi main_v130 main_v132
  let main_c_52 : IVec S_ 1 := constantI S_ 1 1#1
  let main_v134 : IVec S_ 1 := (fun x v => Host.reduce IntOp.andi x v reducesTo_S16384x26_S_d0_1 h_S_) main_v133 main_c_52
  let main_v135 : IVec S_ 1 := andi main_v128 main_v134
  main_v135

def fn_part6 {F : FTy → Type} [FloatOps F] (main_arg0 : IVec S16384x26 32) (main_arg22 : FVec F S100000x36 .f32) (main_arg23 : FVec F S100000x36 .f32) (main_arg24 : FVec F S100000x36 .f32) (main_arg25 : FVec F S100000x36 .f32) (main_arg26 : FVec F S100000x36 .f32) (main_v98 : IVec S_ 1) (main_v101 : IVec S100000x36 1) (main_c_39 : IVec S_ 1) : IVec S_ 1 :=
  let main_v102 : IVec S_ 1 := (fun x v => Host.reduce IntOp.andi x v reducesTo_S100000x36_S_d0_1 h_S_) main_v101 main_c_39
  let main_v103 : IVec S_ 1 := andi main_v98 main_v102
  let main_v104 : FVec F S100000x36 .f32 := Host.absf main_arg22
  let main_cst_40 : FVec F S_ .f32 := constant S_ .f32 0x7F800000#32
  let main_v105 : FVec F S100000x36 .f32 := broadcastInDim S100000x36 ![] bcast_S_S100000x36 main_cst_40
  let main_v106 : IVec S100000x36 1 := cmpf .olt main_v104 main_v105
  let main_c_41 : IVec S_ 1 := constantI S_ 1 1#1
  let main_v107 : IVec S_ 1 := (fun x v => Host.reduce IntOp.andi x v reducesTo_S100000x36_S_d0_1 h_S_) main_v106 main_c_41
  let main_v108 : IVec S_ 1 := andi main_v103 main_v107
  let main_v109 : FVec F S100000x36 .f32 := Host.absf main_arg23
  let main_cst_42 : FVec F S_ .f32 := constant S_ .f32 0x7F800000#32
  let main_v110 : FVec F S100000x36 .f32 := broadcastInDim S100000x36 ![] bcast_S_S100000x36 main_cst_42
  let main_v111 : IVec S100000x36 1 := cmpf .olt main_v109 main_v110
  let main_c_43 : IVec S_ 1 := constantI S_ 1 1#1
  let main_v112 : IVec S_ 1 := (fun x v => Host.reduce IntOp.andi x v reducesTo_S100000x36_S_d0_1 h_S_) main_v111 main_c_43
  let main_v113 : IVec S_ 1 := andi main_v108 main_v112
  let main_v114 : FVec F S100000x36 .f32 := Host.absf main_arg24
  let main_cst_44 : FVec F S_ .f32 := constant S_ .f32 0x7F800000#32
  let main_v115 : FVec F S100000x36 .f32 := broadcastInDim S100000x36 ![] bcast_S_S100000x36 main_cst_44
  let main_v116 : IVec S100000x36 1 := cmpf .olt main_v114 main_v115
  let main_c_45 : IVec S_ 1 := constantI S_ 1 1#1
  let main_v117 : IVec S_ 1 := (fun x v => Host.reduce IntOp.andi x v reducesTo_S100000x36_S_d0_1 h_S_) main_v116 main_c_45
  let main_v118 : IVec S_ 1 := andi main_v113 main_v117
  let main_v119 : FVec F S100000x36 .f32 := Host.absf main_arg25
  fn_part7 (F := F) main_arg0 main_arg26 main_v118 main_v119

def fn_part5 {F : FTy → Type} [FloatOps F] (main_arg0 : IVec S16384x26 32) (main_arg19 : FVec F S100000x36 .f32) (main_arg20 : FVec F S100000x36 .f32) (main_arg21 : FVec F S100000x36 .f32) (main_arg22 : FVec F S100000x36 .f32) (main_arg23 : FVec F S100000x36 .f32) (main_arg24 : FVec F S100000x36 .f32) (main_arg25 : FVec F S100000x36 .f32) (main_arg26 : FVec F S100000x36 .f32) (main_v83 : IVec S_ 1) (main_v84 : FVec F S100000x36 .f32) (main_cst_32 : FVec F S_ .f32) : IVec S_ 1 :=
  let main_v85 : FVec F S100000x36 .f32 := broadcastInDim S100000x36 ![] bcast_S_S100000x36 main_cst_32
  let main_v86 : IVec S100000x36 1 := cmpf .olt main_v84 main_v85
  let main_c_33 : IVec S_ 1 := constantI S_ 1 1#1
  let main_v87 : IVec S_ 1 := (fun x v => Host.reduce IntOp.andi x v reducesTo_S100000x36_S_d0_1 h_S_) main_v86 main_c_33
  let main_v88 : IVec S_ 1 := andi main_v83 main_v87
  let main_v89 : FVec F S100000x36 .f32 := Host.absf main_arg19
  let main_cst_34 : FVec F S_ .f32 := constant S_ .f32 0x7F800000#32
  let main_v90 : FVec F S100000x36 .f32 := broadcastInDim S100000x36 ![] bcast_S_S100000x36 main_cst_34
  let main_v91 : IVec S100000x36 1 := cmpf .olt main_v89 main_v90
  let main_c_35 : IVec S_ 1 := constantI S_ 1 1#1
  let main_v92 : IVec S_ 1 := (fun x v => Host.reduce IntOp.andi x v reducesTo_S100000x36_S_d0_1 h_S_) main_v91 main_c_35
  let main_v93 : IVec S_ 1 := andi main_v88 main_v92
  let main_v94 : FVec F S100000x36 .f32 := Host.absf main_arg20
  let main_cst_36 : FVec F S_ .f32 := constant S_ .f32 0x7F800000#32
  let main_v95 : FVec F S100000x36 .f32 := broadcastInDim S100000x36 ![] bcast_S_S100000x36 main_cst_36
  let main_v96 : IVec S100000x36 1 := cmpf .olt main_v94 main_v95
  let main_c_37 : IVec S_ 1 := constantI S_ 1 1#1
  let main_v97 : IVec S_ 1 := (fun x v => Host.reduce IntOp.andi x v reducesTo_S100000x36_S_d0_1 h_S_) main_v96 main_c_37
  let main_v98 : IVec S_ 1 := andi main_v93 main_v97
  let main_v99 : FVec F S100000x36 .f32 := Host.absf main_arg21
  let main_cst_38 : FVec F S_ .f32 := constant S_ .f32 0x7F800000#32
  let main_v100 : FVec F S100000x36 .f32 := broadcastInDim S100000x36 ![] bcast_S_S100000x36 main_cst_38
  let main_v101 : IVec S100000x36 1 := cmpf .olt main_v99 main_v100
  let main_c_39 : IVec S_ 1 := constantI S_ 1 1#1
  fn_part6 (F := F) main_arg0 main_arg22 main_arg23 main_arg24 main_arg25 main_arg26 main_v98 main_v101 main_c_39

def fn_part4 {F : FTy → Type} [FloatOps F] (main_arg0 : IVec S16384x26 32) (main_arg15 : FVec F S100000x36 .f32) (main_arg16 : FVec F S100000x36 .f32) (main_arg17 : FVec F S100000x36 .f32) (main_arg18 : FVec F S100000x36 .f32) (main_arg19 : FVec F S100000x36 .f32) (main_arg20 : FVec F S100000x36 .f32) (main_arg21 : FVec F S100000x36 .f32) (main_arg22 : FVec F S100000x36 .f32) (main_arg23 : FVec F S100000x36 .f32) (main_arg24 : FVec F S100000x36 .f32) (main_arg25 : FVec F S100000x36 .f32) (main_arg26 : FVec F S100000x36 .f32) (main_v63 : IVec S_ 1) (main_v67 : IVec S_ 1) : IVec S_ 1 :=
  let main_v68 : IVec S_ 1 := andi main_v63 main_v67
  let main_v69 : FVec F S100000x36 .f32 := Host.absf main_arg15
  let main_cst_26 : FVec F S_ .f32 := constant S_ .f32 0x7F800000#32
  let main_v70 : FVec F S100000x36 .f32 := broadcastInDim S100000x36 ![] bcast_S_S100000x36 main_cst_26
  let main_v71 : IVec S100000x36 1 := cmpf .olt main_v69 main_v70
  let main_c_27 : IVec S_ 1 := constantI S_ 1 1#1
  let main_v72 : IVec S_ 1 := (fun x v => Host.reduce IntOp.andi x v reducesTo_S100000x36_S_d0_1 h_S_) main_v71 main_c_27
  let main_v73 : IVec S_ 1 := andi main_v68 main_v72
  let main_v74 : FVec F S100000x36 .f32 := Host.absf main_arg16
  let main_cst_28 : FVec F S_ .f32 := constant S_ .f32 0x7F800000#32
  let main_v75 : FVec F S100000x36 .f32 := broadcastInDim S100000x36 ![] bcast_S_S100000x36 main_cst_28
  let main_v76 : IVec S100000x36 1 := cmpf .olt main_v74 main_v75
  let main_c_29 : IVec S_ 1 := constantI S_ 1 1#1
  let main_v77 : IVec S_ 1 := (fun x v => Host.reduce IntOp.andi x v reducesTo_S100000x36_S_d0_1 h_S_) main_v76 main_c_29
  let main_v78 : IVec S_ 1 := andi main_v73 main_v77
  let main_v79 : FVec F S100000x36 .f32 := Host.absf main_arg17
  let main_cst_30 : FVec F S_ .f32 := constant S_ .f32 0x7F800000#32
  let main_v80 : FVec F S100000x36 .f32 := broadcastInDim S100000x36 ![] bcast_S_S100000x36 main_cst_30
  let main_v81 : IVec S100000x36 1 := cmpf .olt main_v79 main_v80
  let main_c_31 : IVec S_ 1 := constantI S_ 1 1#1
  let main_v82 : IVec S_ 1 := (fun x v => Host.reduce IntOp.andi x v reducesTo_S100000x36_S_d0_1 h_S_) main_v81 main_c_31
  let main_v83 : IVec S_ 1 := andi main_v78 main_v82
  let main_v84 : FVec F S100000x36 .f32 := Host.absf main_arg18
  let main_cst_32 : FVec F S_ .f32 := constant S_ .f32 0x7F800000#32
  fn_part5 (F := F) main_arg0 main_arg19 main_arg20 main_arg21 main_arg22 main_arg23 main_arg24 main_arg25 main_arg26 main_v83 main_v84 main_cst_32

def fn_part3 {F : FTy → Type} [FloatOps F] (main_arg0 : IVec S16384x26 32) (main_arg12 : FVec F S100000x36 .f32) (main_arg13 : FVec F S100000x36 .f32) (main_arg14 : FVec F S100000x36 .f32) (main_arg15 : FVec F S100000x36 .f32) (main_arg16 : FVec F S100000x36 .f32) (main_arg17 : FVec F S100000x36 .f32) (main_arg18 : FVec F S100000x36 .f32) (main_arg19 : FVec F S100000x36 .f32) (main_arg20 : FVec F S100000x36 .f32) (main_arg21 : FVec F S100000x36 .f32) (main_arg22 : FVec F S100000x36 .f32) (main_arg23 : FVec F S100000x36 .f32) (main_arg24 : FVec F S100000x36 .f32) (main_arg25 : FVec F S100000x36 .f32) (main_arg26 : FVec F S100000x36 .f32) (main_v48 : IVec S_ 1) (main_v49 : FVec F S100000x36 .f32) (main_v50 : FVec F S100000x36 .f32) : IVec S_ 1 :=
  let main_v51 : IVec S100000x36 1 := cmpf .olt main_v49 main_v50
  let main_c_19 : IVec S_ 1 := constantI S_ 1 1#1
  let main_v52 : IVec S_ 1 := (fun x v => Host.reduce IntOp.andi x v reducesTo_S100000x36_S_d0_1 h_S_) main_v51 main_c_19
  let main_v53 : IVec S_ 1 := andi main_v48 main_v52
  let main_v54 : FVec F S100000x36 .f32 := Host.absf main_arg12
  let main_cst_20 : FVec F S_ .f32 := constant S_ .f32 0x7F800000#32
  let main_v55 : FVec F S100000x36 .f32 := broadcastInDim S100000x36 ![] bcast_S_S100000x36 main_cst_20
  let main_v56 : IVec S100000x36 1 := cmpf .olt main_v54 main_v55
  let main_c_21 : IVec S_ 1 := constantI S_ 1 1#1
  let main_v57 : IVec S_ 1 := (fun x v => Host.reduce IntOp.andi x v reducesTo_S100000x36_S_d0_1 h_S_) main_v56 main_c_21
  let main_v58 : IVec S_ 1 := andi main_v53 main_v57
  let main_v59 : FVec F S100000x36 .f32 := Host.absf main_arg13
  let main_cst_22 : FVec F S_ .f32 := constant S_ .f32 0x7F800000#32
  let main_v60 : FVec F S100000x36 .f32 := broadcastInDim S100000x36 ![] bcast_S_S100000x36 main_cst_22
  let main_v61 : IVec S100000x36 1 := cmpf .olt main_v59 main_v60
  let main_c_23 : IVec S_ 1 := constantI S_ 1 1#1
  let main_v62 : IVec S_ 1 := (fun x v => Host.reduce IntOp.andi x v reducesTo_S100000x36_S_d0_1 h_S_) main_v61 main_c_23
  let main_v63 : IVec S_ 1 := andi main_v58 main_v62
  let main_v64 : FVec F S100000x36 .f32 := Host.absf main_arg14
  let main_cst_24 : FVec F S_ .f32 := constant S_ .f32 0x7F800000#32
  let main_v65 : FVec F S100000x36 .f32 := broadcastInDim S100000x36 ![] bcast_S_S100000x36 main_cst_24
  let main_v66 : IVec S100000x36 1 := cmpf .olt main_v64 main_v65
  let main_c_25 : IVec S_ 1 := constantI S_ 1 1#1
  let main_v67 : IVec S_ 1 := (fun x v => Host.reduce IntOp.andi x v reducesTo_S100000x36_S_d0_1 h_S_) main_v66 main_c_25
  fn_part4 (F := F) main_arg0 main_arg15 main_arg16 main_arg17 main_arg18 main_arg19 main_arg20 main_arg21 main_arg22 main_arg23 main_arg24 main_arg25 main_arg26 main_v63 main_v67

def fn_part2 {F : FTy → Type} [FloatOps F] (main_arg0 : IVec S16384x26 32) (main_arg8 : FVec F S100000x36 .f32) (main_arg9 : FVec F S100000x36 .f32) (main_arg10 : FVec F S100000x36 .f32) (main_arg11 : FVec F S100000x36 .f32) (main_arg12 : FVec F S100000x36 .f32) (main_arg13 : FVec F S100000x36 .f32) (main_arg14 : FVec F S100000x36 .f32) (main_arg15 : FVec F S100000x36 .f32) (main_arg16 : FVec F S100000x36 .f32) (main_arg17 : FVec F S100000x36 .f32) (main_arg18 : FVec F S100000x36 .f32) (main_arg19 : FVec F S100000x36 .f32) (main_arg20 : FVec F S100000x36 .f32) (main_arg21 : FVec F S100000x36 .f32) (main_arg22 : FVec F S100000x36 .f32) (main_arg23 : FVec F S100000x36 .f32) (main_arg24 : FVec F S100000x36 .f32) (main_arg25 : FVec F S100000x36 .f32) (main_arg26 : FVec F S100000x36 .f32) (main_v33 : IVec S_ 1) : IVec S_ 1 :=
  let main_v34 : FVec F S100000x36 .f32 := Host.absf main_arg8
  let main_cst_12 : FVec F S_ .f32 := constant S_ .f32 0x7F800000#32
  let main_v35 : FVec F S100000x36 .f32 := broadcastInDim S100000x36 ![] bcast_S_S100000x36 main_cst_12
  let main_v36 : IVec S100000x36 1 := cmpf .olt main_v34 main_v35
  let main_c_13 : IVec S_ 1 := constantI S_ 1 1#1
  let main_v37 : IVec S_ 1 := (fun x v => Host.reduce IntOp.andi x v reducesTo_S100000x36_S_d0_1 h_S_) main_v36 main_c_13
  let main_v38 : IVec S_ 1 := andi main_v33 main_v37
  let main_v39 : FVec F S100000x36 .f32 := Host.absf main_arg9
  let main_cst_14 : FVec F S_ .f32 := constant S_ .f32 0x7F800000#32
  let main_v40 : FVec F S100000x36 .f32 := broadcastInDim S100000x36 ![] bcast_S_S100000x36 main_cst_14
  let main_v41 : IVec S100000x36 1 := cmpf .olt main_v39 main_v40
  let main_c_15 : IVec S_ 1 := constantI S_ 1 1#1
  let main_v42 : IVec S_ 1 := (fun x v => Host.reduce IntOp.andi x v reducesTo_S100000x36_S_d0_1 h_S_) main_v41 main_c_15
  let main_v43 : IVec S_ 1 := andi main_v38 main_v42
  let main_v44 : FVec F S100000x36 .f32 := Host.absf main_arg10
  let main_cst_16 : FVec F S_ .f32 := constant S_ .f32 0x7F800000#32
  let main_v45 : FVec F S100000x36 .f32 := broadcastInDim S100000x36 ![] bcast_S_S100000x36 main_cst_16
  let main_v46 : IVec S100000x36 1 := cmpf .olt main_v44 main_v45
  let main_c_17 : IVec S_ 1 := constantI S_ 1 1#1
  let main_v47 : IVec S_ 1 := (fun x v => Host.reduce IntOp.andi x v reducesTo_S100000x36_S_d0_1 h_S_) main_v46 main_c_17
  let main_v48 : IVec S_ 1 := andi main_v43 main_v47
  let main_v49 : FVec F S100000x36 .f32 := Host.absf main_arg11
  let main_cst_18 : FVec F S_ .f32 := constant S_ .f32 0x7F800000#32
  let main_v50 : FVec F S100000x36 .f32 := broadcastInDim S100000x36 ![] bcast_S_S100000x36 main_cst_18
  fn_part3 (F := F) main_arg0 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg0 : IVec S16384x26 32) (main_arg5 : FVec F S100000x36 .f32) (main_arg6 : FVec F S100000x36 .f32) (main_arg7 : FVec F S100000x36 .f32) (main_arg8 : FVec F S100000x36 .f32) (main_arg9 : FVec F S100000x36 .f32) (main_arg10 : FVec F S100000x36 .f32) (main_arg11 : FVec F S100000x36 .f32) (main_arg12 : FVec F S100000x36 .f32) (main_arg13 : FVec F S100000x36 .f32) (main_arg14 : FVec F S100000x36 .f32) (main_arg15 : FVec F S100000x36 .f32) (main_arg16 : FVec F S100000x36 .f32) (main_arg17 : FVec F S100000x36 .f32) (main_arg18 : FVec F S100000x36 .f32) (main_arg19 : FVec F S100000x36 .f32) (main_arg20 : FVec F S100000x36 .f32) (main_arg21 : FVec F S100000x36 .f32) (main_arg22 : FVec F S100000x36 .f32) (main_arg23 : FVec F S100000x36 .f32) (main_arg24 : FVec F S100000x36 .f32) (main_arg25 : FVec F S100000x36 .f32) (main_arg26 : FVec F S100000x36 .f32) (main_v13 : IVec S_ 1) (main_v16 : IVec S100000x36 1) : IVec S_ 1 :=
  let main_c_5 : IVec S_ 1 := constantI S_ 1 1#1
  let main_v17 : IVec S_ 1 := (fun x v => Host.reduce IntOp.andi x v reducesTo_S100000x36_S_d0_1 h_S_) main_v16 main_c_5
  let main_v18 : IVec S_ 1 := andi main_v13 main_v17
  let main_v19 : FVec F S100000x36 .f32 := Host.absf main_arg5
  let main_cst_6 : FVec F S_ .f32 := constant S_ .f32 0x7F800000#32
  let main_v20 : FVec F S100000x36 .f32 := broadcastInDim S100000x36 ![] bcast_S_S100000x36 main_cst_6
  let main_v21 : IVec S100000x36 1 := cmpf .olt main_v19 main_v20
  let main_c_7 : IVec S_ 1 := constantI S_ 1 1#1
  let main_v22 : IVec S_ 1 := (fun x v => Host.reduce IntOp.andi x v reducesTo_S100000x36_S_d0_1 h_S_) main_v21 main_c_7
  let main_v23 : IVec S_ 1 := andi main_v18 main_v22
  let main_v24 : FVec F S100000x36 .f32 := Host.absf main_arg6
  let main_cst_8 : FVec F S_ .f32 := constant S_ .f32 0x7F800000#32
  let main_v25 : FVec F S100000x36 .f32 := broadcastInDim S100000x36 ![] bcast_S_S100000x36 main_cst_8
  let main_v26 : IVec S100000x36 1 := cmpf .olt main_v24 main_v25
  let main_c_9 : IVec S_ 1 := constantI S_ 1 1#1
  let main_v27 : IVec S_ 1 := (fun x v => Host.reduce IntOp.andi x v reducesTo_S100000x36_S_d0_1 h_S_) main_v26 main_c_9
  let main_v28 : IVec S_ 1 := andi main_v23 main_v27
  let main_v29 : FVec F S100000x36 .f32 := Host.absf main_arg7
  let main_cst_10 : FVec F S_ .f32 := constant S_ .f32 0x7F800000#32
  let main_v30 : FVec F S100000x36 .f32 := broadcastInDim S100000x36 ![] bcast_S_S100000x36 main_cst_10
  let main_v31 : IVec S100000x36 1 := cmpf .olt main_v29 main_v30
  let main_c_11 : IVec S_ 1 := constantI S_ 1 1#1
  let main_v32 : IVec S_ 1 := (fun x v => Host.reduce IntOp.andi x v reducesTo_S100000x36_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S16384x26 32) (main_arg1 : FVec F S100000x36 .f32) (main_arg2 : FVec F S100000x36 .f32) (main_arg3 : FVec F S100000x36 .f32) (main_arg4 : FVec F S100000x36 .f32) (main_arg5 : FVec F S100000x36 .f32) (main_arg6 : FVec F S100000x36 .f32) (main_arg7 : FVec F S100000x36 .f32) (main_arg8 : FVec F S100000x36 .f32) (main_arg9 : FVec F S100000x36 .f32) (main_arg10 : FVec F S100000x36 .f32) (main_arg11 : FVec F S100000x36 .f32) (main_arg12 : FVec F S100000x36 .f32) (main_arg13 : FVec F S100000x36 .f32) (main_arg14 : FVec F S100000x36 .f32) (main_arg15 : FVec F S100000x36 .f32) (main_arg16 : FVec F S100000x36 .f32) (main_arg17 : FVec F S100000x36 .f32) (main_arg18 : FVec F S100000x36 .f32) (main_arg19 : FVec F S100000x36 .f32) (main_arg20 : FVec F S100000x36 .f32) (main_arg21 : FVec F S100000x36 .f32) (main_arg22 : FVec F S100000x36 .f32) (main_arg23 : FVec F S100000x36 .f32) (main_arg24 : FVec F S100000x36 .f32) (main_arg25 : FVec F S100000x36 .f32) (main_arg26 : FVec F S100000x36 .f32) : IVec S_ 1 :=
  let main_v0 : FVec F S100000x36 .f32 := Host.absf main_arg1
  let main_cst : FVec F S_ .f32 := constant S_ .f32 0x7F800000#32
  let main_v1 : FVec F S100000x36 .f32 := broadcastInDim S100000x36 ![] bcast_S_S100000x36 main_cst
  let main_v2 : IVec S100000x36 1 := cmpf .olt main_v0 main_v1
  let main_c : IVec S_ 1 := constantI S_ 1 1#1
  let main_v3 : IVec S_ 1 := (fun x v => Host.reduce IntOp.andi x v reducesTo_S100000x36_S_d0_1 h_S_) main_v2 main_c
  let main_v4 : FVec F S100000x36 .f32 := Host.absf main_arg2
  let main_cst_0 : FVec F S_ .f32 := constant S_ .f32 0x7F800000#32
  let main_v5 : FVec F S100000x36 .f32 := broadcastInDim S100000x36 ![] bcast_S_S100000x36 main_cst_0
  let main_v6 : IVec S100000x36 1 := cmpf .olt main_v4 main_v5
  let main_c_1 : IVec S_ 1 := constantI S_ 1 1#1
  let main_v7 : IVec S_ 1 := (fun x v => Host.reduce IntOp.andi x v reducesTo_S100000x36_S_d0_1 h_S_) main_v6 main_c_1
  let main_v8 : IVec S_ 1 := andi main_v3 main_v7
  let main_v9 : FVec F S100000x36 .f32 := Host.absf main_arg3
  let main_cst_2 : FVec F S_ .f32 := constant S_ .f32 0x7F800000#32
  let main_v10 : FVec F S100000x36 .f32 := broadcastInDim S100000x36 ![] bcast_S_S100000x36 main_cst_2
  let main_v11 : IVec S100000x36 1 := cmpf .olt main_v9 main_v10
  let main_c_3 : IVec S_ 1 := constantI S_ 1 1#1
  let main_v12 : IVec S_ 1 := (fun x v => Host.reduce IntOp.andi x v reducesTo_S100000x36_S_d0_1 h_S_) main_v11 main_c_3
  let main_v13 : IVec S_ 1 := andi main_v8 main_v12
  let main_v14 : FVec F S100000x36 .f32 := Host.absf main_arg4
  let main_cst_4 : FVec F S_ .f32 := constant S_ .f32 0x7F800000#32
  let main_v15 : FVec F S100000x36 .f32 := broadcastInDim S100000x36 ![] bcast_S_S100000x36 main_cst_4
  let main_v16 : IVec S100000x36 1 := cmpf .olt main_v14 main_v15
  fn_part1 (F := F) main_arg0 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S16384x26 : Shape := ⟨2, ![16384, 26]⟩
abbrev S100000x36 : Shape := ⟨2, ![100000, 36]⟩
abbrev S26x16384 : Shape := ⟨2, ![26, 16384]⟩
abbrev S36x100000 : Shape := ⟨2, ![36, 100000]⟩
abbrev S936x16384 : Shape := ⟨2, ![936, 16384]⟩
abbrev S100000 : Shape := ⟨1, ![100000]⟩
abbrev S8192 : Shape := ⟨1, ![8192]⟩
abbrev S_ : Shape := ⟨0, ![]⟩
abbrev S1x8192 : Shape := ⟨2, ![1, 8192]⟩
abbrev S1x100000 : Shape := ⟨2, ![1, 100000]⟩
abbrev S16 : Shape := ⟨1, ![16]⟩
abbrev S16384x936 : Shape := ⟨2, ![16384, 936]⟩

abbrev nBuf : Table → Nat
  | .hbm => 56
  | .local .scVector .vmem => 4
  | _ => 0

abbrev bufTy : (tb : Table) → Fin (nBuf tb) → BufTy
  | .hbm, ⟨0, _⟩ => ⟨S16384x26, .i32⟩
  | .hbm, ⟨1, _⟩ => ⟨S100000x36, .f32⟩
  | .hbm, ⟨2, _⟩ => ⟨S100000x36, .f32⟩
  | .hbm, ⟨3, _⟩ => ⟨S100000x36, .f32⟩
  | .hbm, ⟨4, _⟩ => ⟨S100000x36, .f32⟩
  | .hbm, ⟨5, _⟩ => ⟨S100000x36, .f32⟩
  | .hbm, ⟨6, _⟩ => ⟨S100000x36, .f32⟩
  | .hbm, ⟨7, _⟩ => ⟨S100000x36, .f32⟩
  | .hbm, ⟨8, _⟩ => ⟨S100000x36, .f32⟩
  | .hbm, ⟨9, _⟩ => ⟨S100000x36, .f32⟩
  | .hbm, ⟨10, _⟩ => ⟨S100000x36, .f32⟩
  | .hbm, ⟨11, _⟩ => ⟨S100000x36, .f32⟩
  | .hbm, ⟨12, _⟩ => ⟨S100000x36, .f32⟩
  | .hbm, ⟨13, _⟩ => ⟨S100000x36, .f32⟩
  | .hbm, ⟨14, _⟩ => ⟨S100000x36, .f32⟩
  | .hbm, ⟨15, _⟩ => ⟨S100000x36, .f32⟩
  | .hbm, ⟨16, _⟩ => ⟨S100000x36, .f32⟩
  | .hbm, ⟨17, _⟩ => ⟨S100000x36, .f32⟩
  | .hbm, ⟨18, _⟩ => ⟨S100000x36, .f32⟩
  | .hbm, ⟨19, _⟩ => ⟨S100000x36, .f32⟩
  | .hbm, ⟨20, _⟩ => ⟨S100000x36, .f32⟩
  | .hbm, ⟨21, _⟩ => ⟨S100000x36, .f32⟩
  | .hbm, ⟨22, _⟩ => ⟨S100000x36, .f32⟩
  | .hbm, ⟨23, _⟩ => ⟨S100000x36, .f32⟩
  | .hbm, ⟨24, _⟩ => ⟨S100000x36, .f32⟩
  | .hbm, ⟨25, _⟩ => ⟨S100000x36, .f32⟩
  | .hbm, ⟨26, _⟩ => ⟨S100000x36, .f32⟩
  | .hbm, ⟨27, _⟩ => ⟨S26x16384, .i32⟩
  | .hbm, ⟨28, _⟩ => ⟨S36x100000, .f32⟩
  | .hbm, ⟨29, _⟩ => ⟨S36x100000, .f32⟩
  | .hbm, ⟨30, _⟩ => ⟨S36x100000, .f32⟩
  | .hbm, ⟨31, _⟩ => ⟨S36x100000, .f32⟩
  | .hbm, ⟨32, _⟩ => ⟨S36x100000, .f32⟩
  | .hbm, ⟨33, _⟩ => ⟨S36x100000, .f32⟩
  | .hbm, ⟨34, _⟩ => ⟨S36x100000, .f32⟩
  | .hbm, ⟨35, _⟩ => ⟨S36x100000, .f32⟩
  | .hbm, ⟨36, _⟩ => ⟨S36x100000, .f32⟩
  | .hbm, ⟨37, _⟩ => ⟨S36x100000, .f32⟩
  | .hbm, ⟨38, _⟩ => ⟨S36x100000, .f32⟩
  | .hbm, ⟨39, _⟩ => ⟨S36x100000, .f32⟩
  | .hbm, ⟨40, _⟩ => ⟨S36x100000, .f32⟩
  | .hbm, ⟨41, _⟩ => ⟨S36x100000, .f32⟩
  | .hbm, ⟨42, _⟩ => ⟨S36x100000, .f32⟩
  | .hbm, ⟨43, _⟩ => ⟨S36x100000, .f32⟩
  | .hbm, ⟨44, _⟩ => ⟨S36x100000, .f32⟩
  | .hbm, ⟨45, _⟩ => ⟨S36x100000, .f32⟩
  | .hbm, ⟨46, _⟩ => ⟨S36x100000, .f32⟩
  | .hbm, ⟨47, _⟩ => ⟨S36x100000, .f32⟩
  | .hbm, ⟨48, _⟩ => ⟨S36x100000, .f32⟩
  | .hbm, ⟨49, _⟩ => ⟨S36x100000, .f32⟩
  | .hbm, ⟨50, _⟩ => ⟨S36x100000, .f32⟩
  | .hbm, ⟨51, _⟩ => ⟨S36x100000, .f32⟩
  | .hbm, ⟨52, _⟩ => ⟨S36x100000, .f32⟩
  | .hbm, ⟨53, _⟩ => ⟨S36x100000, .f32⟩
  | .hbm, ⟨54, _⟩ => ⟨S936x16384, .f32⟩
  | .hbm, ⟨55, _⟩ => ⟨S16384x936, .f32⟩
  | .local .scVector .vmem, ⟨0, _⟩ => ⟨S100000, .f32⟩
  | .local .scVector .vmem, ⟨1, _⟩ => ⟨S8192, .i32⟩
  | .local .scVector .vmem, ⟨2, _⟩ => ⟨S8192, .i32⟩
  | .local .scVector .vmem, ⟨3, _⟩ => ⟨S8192, .f32⟩
  | _, _ => ⟨S16384x26, .i32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 208 → Bool
  | ⟨i, _⟩ => dmaSemScopedAt i

abbrev sig : RefSig :=
  ofTables nBuf rfl bufTy 4 208 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v0_scv : Ref sig .scVector := ⟨.hbm, 27, rfl⟩
abbrev main_v1_scv : Ref sig .scVector := ⟨.hbm, 28, rfl⟩
abbrev main_v2_scv : Ref sig .scVector := ⟨.hbm, 29, rfl⟩
abbrev main_v3_scv : Ref sig .scVector := ⟨.hbm, 30, rfl⟩
abbrev main_v4_scv : Ref sig .scVector := ⟨.hbm, 31, rfl⟩
abbrev main_v5_scv : Ref sig .scVector := ⟨.hbm, 32, rfl⟩
abbrev main_v6_scv : Ref sig .scVector := ⟨.hbm, 33, rfl⟩
abbrev main_v7_scv : Ref sig .scVector := ⟨.hbm, 34, rfl⟩
abbrev main_v8_scv : Ref sig .scVector := ⟨.hbm, 35, rfl⟩
abbrev main_v9_scv : Ref sig .scVector := ⟨.hbm, 36, rfl⟩
abbrev main_v10_scv : Ref sig .scVector := ⟨.hbm, 37, rfl⟩
abbrev main_v11_scv : Ref sig .scVector := ⟨.hbm, 38, rfl⟩
abbrev main_v12_scv : Ref sig .scVector := ⟨.hbm, 39, rfl⟩
abbrev main_v13_scv : Ref sig .scVector := ⟨.hbm, 40, rfl⟩
abbrev main_v14_scv : Ref sig .scVector := ⟨.hbm, 41, rfl⟩
abbrev main_v15_scv : Ref sig .scVector := ⟨.hbm, 42, rfl⟩
abbrev main_v16_scv : Ref sig .scVector := ⟨.hbm, 43, rfl⟩
abbrev main_v17_scv : Ref sig .scVector := ⟨.hbm, 44, rfl⟩
abbrev main_v18_scv : Ref sig .scVector := ⟨.hbm, 45, rfl⟩
abbrev main_v19_scv : Ref sig .scVector := ⟨.hbm, 46, rfl⟩
abbrev main_v20_scv : Ref sig .scVector := ⟨.hbm, 47, rfl⟩
abbrev main_v21_scv : Ref sig .scVector := ⟨.hbm, 48, rfl⟩
abbrev main_v22_scv : Ref sig .scVector := ⟨.hbm, 49, rfl⟩
abbrev main_v23_scv : Ref sig .scVector := ⟨.hbm, 50, rfl⟩
abbrev main_v24_scv : Ref sig .scVector := ⟨.hbm, 51, rfl⟩
abbrev main_v25_scv : Ref sig .scVector := ⟨.hbm, 52, rfl⟩
abbrev main_v26_scv : Ref sig .scVector := ⟨.hbm, 53, rfl⟩
abbrev main_v27_scv : Ref sig .scVector := ⟨.hbm, 54, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c36_i32_17 : BitVec 32 := 36#32
  let c0_i32_16 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c36_i32_17 v43
  let v48 : BitVec 32 := Scalar.subi v44 v41
  let c1_i32_20 : BitVec 32 := 1#32
  let v50 : BitVec 32 := Scalar.divsi v48 c1_i32_20
  let v51 : BitVec 32 := Scalar.muli v50 c1_i32_20
  let v52 : BitVec 32 := Scalar.addi v41 v51
  let c1_i32_21 : BitVec 32 := 1#32
  ⟨v41, v52, c1_i32_21⟩
def k0_off1 (i : grid0.Coords) (k0_t1 : Fin (k0_t1_loop i).trips) : Fin 2 → Nat :=
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c1_i32_21 : BitVec 32 := 1#32
  let arg34 : BitVec 32 := Scf.iv v41 c1_i32_21 k0_t1
  let c0_i32_287_r2 : BitVec 32 := 0#32
  ![arg34.toNat, 0]
@[reducible] def k0_t2_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off2 (k0_t2 : Fin k0_t2_loop.trips) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1 (v464 : IVec S16 32) : Prop :=
  (∀ a x, ((![v464] : Fin 1 → IVec S16 32) a x).toNat < S100000.size a)
instance k0_chk1.dec : ∀ (v464 : IVec S16 32), Decidable (k0_chk1 v464) := fun v464 => decidable_of_iff' _ (Iff.of_eq (k0_chk1.eq_1 v464))
theorem k0_idx1_inb : ∀ (v464 : IVec S16 32) (k0_hw1 : k0_chk1 v464), ∀ a x, ((![v464] : Fin 1 → IVec S16 32) a x).toNat < S100000.size a := fun v464 k0_hw1 => k0_hw1
def k0_off3 (k0_t2 : Fin k0_t2_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v466 : BitVec 32 := Scalar.addi v461 c0_i32_288
  let v467 : Index := Scalar.indexCast v466
  ![v467.toNat]

def k0_chk2 (v471 : IVec S16 32) : Prop :=
  (∀ a x, ((![v471] : Fin 1 → IVec S16 32) a x).toNat < S100000.size a)
instance k0_chk2.dec : ∀ (v471 : IVec S16 32), Decidable (k0_chk2 v471) := fun v471 => decidable_of_iff' _ (Iff.of_eq (k0_chk2.eq_1 v471))
theorem k0_idx2_inb : ∀ (v471 : IVec S16 32) (k0_hw2 : k0_chk2 v471), ∀ a x, ((![v471] : Fin 1 → IVec S16 32) a x).toNat < S100000.size a := fun v471 k0_hw2 => k0_hw2
def k0_off4 (k0_t2 : Fin k0_t2_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v473 : BitVec 32 := Scalar.addi v461 c16_i32_289
  let v474 : Index := Scalar.indexCast v473
  ![v474.toNat]

def k0_chk3 (v478 : IVec S16 32) : Prop :=
  (∀ a x, ((![v478] : Fin 1 → IVec S16 32) a x).toNat < S100000.size a)
instance k0_chk3.dec : ∀ (v478 : IVec S16 32), Decidable (k0_chk3 v478) := fun v478 => decidable_of_iff' _ (Iff.of_eq (k0_chk3.eq_1 v478))
theorem k0_idx3_inb : ∀ (v478 : IVec S16 32) (k0_hw3 : k0_chk3 v478), ∀ a x, ((![v478] : Fin 1 → IVec S16 32) a x).toNat < S100000.size a := fun v478 k0_hw3 => k0_hw3
def k0_off5 (k0_t2 : Fin k0_t2_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v480 : BitVec 32 := Scalar.addi v461 c32_i32_291
  let v481 : Index := Scalar.indexCast v480
  ![v481.toNat]

def k0_chk4 (v485 : IVec S16 32) : Prop :=
  (∀ a x, ((![v485] : Fin 1 → IVec S16 32) a x).toNat < S100000.size a)
instance k0_chk4.dec : ∀ (v485 : IVec S16 32), Decidable (k0_chk4 v485) := fun v485 => decidable_of_iff' _ (Iff.of_eq (k0_chk4.eq_1 v485))
theorem k0_idx4_inb : ∀ (v485 : IVec S16 32) (k0_hw4 : k0_chk4 v485), ∀ a x, ((![v485] : Fin 1 → IVec S16 32) a x).toNat < S100000.size a := fun v485 k0_hw4 => k0_hw4
def k0_off6 (k0_t2 : Fin k0_t2_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v487 : BitVec 32 := Scalar.addi v461 c48_i32_292
  let v488 : Index := Scalar.indexCast v487
  ![v488.toNat]

def k0_chk5 (v492 : IVec S16 32) : Prop :=
  (∀ a x, ((![v492] : Fin 1 → IVec S16 32) a x).toNat < S100000.size a)
instance k0_chk5.dec : ∀ (v492 : IVec S16 32), Decidable (k0_chk5 v492) := fun v492 => decidable_of_iff' _ (Iff.of_eq (k0_chk5.eq_1 v492))
theorem k0_idx5_inb : ∀ (v492 : IVec S16 32) (k0_hw5 : k0_chk5 v492), ∀ a x, ((![v492] : Fin 1 → IVec S16 32) a x).toNat < S100000.size a := fun v492 k0_hw5 => k0_hw5
def k0_off7 (k0_t2 : Fin k0_t2_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v494 : BitVec 32 := Scalar.addi v461 c64_i32_293
  let v495 : Index := Scalar.indexCast v494
  ![v495.toNat]

def k0_chk6 (v499 : IVec S16 32) : Prop :=
  (∀ a x, ((![v499] : Fin 1 → IVec S16 32) a x).toNat < S100000.size a)
instance k0_chk6.dec : ∀ (v499 : IVec S16 32), Decidable (k0_chk6 v499) := fun v499 => decidable_of_iff' _ (Iff.of_eq (k0_chk6.eq_1 v499))
theorem k0_idx6_inb : ∀ (v499 : IVec S16 32) (k0_hw6 : k0_chk6 v499), ∀ a x, ((![v499] : Fin 1 → IVec S16 32) a x).toNat < S100000.size a := fun v499 k0_hw6 => k0_hw6
def k0_off8 (k0_t2 : Fin k0_t2_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v501 : BitVec 32 := Scalar.addi v461 c80_i32_294
  let v502 : Index := Scalar.indexCast v501
  ![v502.toNat]

def k0_chk7 (v506 : IVec S16 32) : Prop :=
  (∀ a x, ((![v506] : Fin 1 → IVec S16 32) a x).toNat < S100000.size a)
instance k0_chk7.dec : ∀ (v506 : IVec S16 32), Decidable (k0_chk7 v506) := fun v506 => decidable_of_iff' _ (Iff.of_eq (k0_chk7.eq_1 v506))
theorem k0_idx7_inb : ∀ (v506 : IVec S16 32) (k0_hw7 : k0_chk7 v506), ∀ a x, ((![v506] : Fin 1 → IVec S16 32) a x).toNat < S100000.size a := fun v506 k0_hw7 => k0_hw7
def k0_off9 (k0_t2 : Fin k0_t2_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v508 : BitVec 32 := Scalar.addi v461 c96_i32_295
  let v509 : Index := Scalar.indexCast v508
  ![v509.toNat]

def k0_chk8 (v513 : IVec S16 32) : Prop :=
  (∀ a x, ((![v513] : Fin 1 → IVec S16 32) a x).toNat < S100000.size a)
instance k0_chk8.dec : ∀ (v513 : IVec S16 32), Decidable (k0_chk8 v513) := fun v513 => decidable_of_iff' _ (Iff.of_eq (k0_chk8.eq_1 v513))
theorem k0_idx8_inb : ∀ (v513 : IVec S16 32) (k0_hw8 : k0_chk8 v513), ∀ a x, ((![v513] : Fin 1 → IVec S16 32) a x).toNat < S100000.size a := fun v513 k0_hw8 => k0_hw8
def k0_off10 (k0_t2 : Fin k0_t2_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v515 : BitVec 32 := Scalar.addi v461 c112_i32_296
  let v516 : Index := Scalar.indexCast v515
  ![v516.toNat]

def k0_chk9 (v520 : IVec S16 32) : Prop :=
  (∀ a x, ((![v520] : Fin 1 → IVec S16 32) a x).toNat < S100000.size a)
instance k0_chk9.dec : ∀ (v520 : IVec S16 32), Decidable (k0_chk9 v520) := fun v520 => decidable_of_iff' _ (Iff.of_eq (k0_chk9.eq_1 v520))
theorem k0_idx9_inb : ∀ (v520 : IVec S16 32) (k0_hw9 : k0_chk9 v520), ∀ a x, ((![v520] : Fin 1 → IVec S16 32) a x).toNat < S100000.size a := fun v520 k0_hw9 => k0_hw9
def k0_off11 (k0_t2 : Fin k0_t2_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v522 : BitVec 32 := Scalar.addi v461 c128_i32_297
  let v523 : Index := Scalar.indexCast v522
  ![v523.toNat]

def k0_chk10 (v527 : IVec S16 32) : Prop :=
  (∀ a x, ((![v527] : Fin 1 → IVec S16 32) a x).toNat < S100000.size a)
instance k0_chk10.dec : ∀ (v527 : IVec S16 32), Decidable (k0_chk10 v527) := fun v527 => decidable_of_iff' _ (Iff.of_eq (k0_chk10.eq_1 v527))
theorem k0_idx10_inb : ∀ (v527 : IVec S16 32) (k0_hw10 : k0_chk10 v527), ∀ a x, ((![v527] : Fin 1 → IVec S16 32) a x).toNat < S100000.size a := fun v527 k0_hw10 => k0_hw10
def k0_off12 (k0_t2 : Fin k0_t2_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v529 : BitVec 32 := Scalar.addi v461 c144_i32_299
  let v530 : Index := Scalar.indexCast v529
  ![v530.toNat]

def k0_chk11 (v534 : IVec S16 32) : Prop :=
  (∀ a x, ((![v534] : Fin 1 → IVec S16 32) a x).toNat < S100000.size a)
instance k0_chk11.dec : ∀ (v534 : IVec S16 32), Decidable (k0_chk11 v534) := fun v534 => decidable_of_iff' _ (Iff.of_eq (k0_chk11.eq_1 v534))
theorem k0_idx11_inb : ∀ (v534 : IVec S16 32) (k0_hw11 : k0_chk11 v534), ∀ a x, ((![v534] : Fin 1 → IVec S16 32) a x).toNat < S100000.size a := fun v534 k0_hw11 => k0_hw11
def k0_off13 (k0_t2 : Fin k0_t2_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v536 : BitVec 32 := Scalar.addi v461 c160_i32_300
  let v537 : Index := Scalar.indexCast v536
  ![v537.toNat]

def k0_chk12 (v541 : IVec S16 32) : Prop :=
  (∀ a x, ((![v541] : Fin 1 → IVec S16 32) a x).toNat < S100000.size a)
instance k0_chk12.dec : ∀ (v541 : IVec S16 32), Decidable (k0_chk12 v541) := fun v541 => decidable_of_iff' _ (Iff.of_eq (k0_chk12.eq_1 v541))
theorem k0_idx12_inb : ∀ (v541 : IVec S16 32) (k0_hw12 : k0_chk12 v541), ∀ a x, ((![v541] : Fin 1 → IVec S16 32) a x).toNat < S100000.size a := fun v541 k0_hw12 => k0_hw12
def k0_off14 (k0_t2 : Fin k0_t2_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v543 : BitVec 32 := Scalar.addi v461 c176_i32_301
  let v544 : Index := Scalar.indexCast v543
  ![v544.toNat]

def k0_chk13 (v548 : IVec S16 32) : Prop :=
  (∀ a x, ((![v548] : Fin 1 → IVec S16 32) a x).toNat < S100000.size a)
instance k0_chk13.dec : ∀ (v548 : IVec S16 32), Decidable (k0_chk13 v548) := fun v548 => decidable_of_iff' _ (Iff.of_eq (k0_chk13.eq_1 v548))
theorem k0_idx13_inb : ∀ (v548 : IVec S16 32) (k0_hw13 : k0_chk13 v548), ∀ a x, ((![v548] : Fin 1 → IVec S16 32) a x).toNat < S100000.size a := fun v548 k0_hw13 => k0_hw13
def k0_off15 (k0_t2 : Fin k0_t2_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v550 : BitVec 32 := Scalar.addi v461 c192_i32_302
  let v551 : Index := Scalar.indexCast v550
  ![v551.toNat]

def k0_chk14 (v555 : IVec S16 32) : Prop :=
  (∀ a x, ((![v555] : Fin 1 → IVec S16 32) a x).toNat < S100000.size a)
instance k0_chk14.dec : ∀ (v555 : IVec S16 32), Decidable (k0_chk14 v555) := fun v555 => decidable_of_iff' _ (Iff.of_eq (k0_chk14.eq_1 v555))
theorem k0_idx14_inb : ∀ (v555 : IVec S16 32) (k0_hw14 : k0_chk14 v555), ∀ a x, ((![v555] : Fin 1 → IVec S16 32) a x).toNat < S100000.size a := fun v555 k0_hw14 => k0_hw14
def k0_off16 (k0_t2 : Fin k0_t2_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v557 : BitVec 32 := Scalar.addi v461 c208_i32_303
  let v558 : Index := Scalar.indexCast v557
  ![v558.toNat]

def k0_chk15 (v562 : IVec S16 32) : Prop :=
  (∀ a x, ((![v562] : Fin 1 → IVec S16 32) a x).toNat < S100000.size a)
instance k0_chk15.dec : ∀ (v562 : IVec S16 32), Decidable (k0_chk15 v562) := fun v562 => decidable_of_iff' _ (Iff.of_eq (k0_chk15.eq_1 v562))
theorem k0_idx15_inb : ∀ (v562 : IVec S16 32) (k0_hw15 : k0_chk15 v562), ∀ a x, ((![v562] : Fin 1 → IVec S16 32) a x).toNat < S100000.size a := fun v562 k0_hw15 => k0_hw15
def k0_off17 (k0_t2 : Fin k0_t2_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let v564 : BitVec 32 := Scalar.addi v461 c224_i32_304
  let v565 : Index := Scalar.indexCast v564
  ![v565.toNat]

def k0_chk16 (v569 : IVec S16 32) : Prop :=
  (∀ a x, ((![v569] : Fin 1 → IVec S16 32) a x).toNat < S100000.size a)
instance k0_chk16.dec : ∀ (v569 : IVec S16 32), Decidable (k0_chk16 v569) := fun v569 => decidable_of_iff' _ (Iff.of_eq (k0_chk16.eq_1 v569))
theorem k0_idx16_inb : ∀ (v569 : IVec S16 32) (k0_hw16 : k0_chk16 v569), ∀ a x, ((![v569] : Fin 1 → IVec S16 32) a x).toNat < S100000.size a := fun v569 k0_hw16 => k0_hw16
def k0_off18 (k0_t2 : Fin k0_t2_loop.trips) : Fin 1 → Nat :=
  let c0_i32_275 : BitVec 32 := 0#32
  let c1_i32_277 : BitVec 32 := 1#32
  let arg36 : BitVec 32 := Scf.iv c0_i32_275 c1_i32_277 k0_t2
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off19 (i : grid0.Coords) (k0_t1 : Fin (k0_t1_loop i).trips) : Fin 2 → Nat :=
  let c0_i32_279 : BitVec 32 := 0#32
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c1_i32_21 : BitVec 32 := 1#32
  let arg34 : BitVec 32 := Scf.iv v41 c1_i32_21 k0_t1
  let v457 : BitVec 32 := Scalar.addi c0_i32_279 arg34
  let c0_i32_287_r3 : BitVec 32 := 0#32
  ![v457.toNat, 0]
@[reducible] def k0_t3_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off20 (k0_t3 : Fin k0_t3_loop.trips) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk17 (v464 : IVec S16 32) : Prop :=
  (∀ a x, ((![v464] : Fin 1 → IVec S16 32) a x).toNat < S100000.size a)
instance k0_chk17.dec : ∀ (v464 : IVec S16 32), Decidable (k0_chk17 v464) := fun v464 => decidable_of_iff' _ (Iff.of_eq (k0_chk17.eq_1 v464))
theorem k0_idx17_inb : ∀ (v464 : IVec S16 32) (k0_hw17 : k0_chk17 v464), ∀ a x, ((![v464] : Fin 1 → IVec S16 32) a x).toNat < S100000.size a := fun v464 k0_hw17 => k0_hw17
def k0_off21 (k0_t3 : Fin k0_t3_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v466 : BitVec 32 := Scalar.addi v461 c0_i32_288
  let v467 : Index := Scalar.indexCast v466
  ![v467.toNat]

def k0_chk18 (v471 : IVec S16 32) : Prop :=
  (∀ a x, ((![v471] : Fin 1 → IVec S16 32) a x).toNat < S100000.size a)
instance k0_chk18.dec : ∀ (v471 : IVec S16 32), Decidable (k0_chk18 v471) := fun v471 => decidable_of_iff' _ (Iff.of_eq (k0_chk18.eq_1 v471))
theorem k0_idx18_inb : ∀ (v471 : IVec S16 32) (k0_hw18 : k0_chk18 v471), ∀ a x, ((![v471] : Fin 1 → IVec S16 32) a x).toNat < S100000.size a := fun v471 k0_hw18 => k0_hw18
def k0_off22 (k0_t3 : Fin k0_t3_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v473 : BitVec 32 := Scalar.addi v461 c16_i32_289
  let v474 : Index := Scalar.indexCast v473
  ![v474.toNat]

def k0_chk19 (v478 : IVec S16 32) : Prop :=
  (∀ a x, ((![v478] : Fin 1 → IVec S16 32) a x).toNat < S100000.size a)
instance k0_chk19.dec : ∀ (v478 : IVec S16 32), Decidable (k0_chk19 v478) := fun v478 => decidable_of_iff' _ (Iff.of_eq (k0_chk19.eq_1 v478))
theorem k0_idx19_inb : ∀ (v478 : IVec S16 32) (k0_hw19 : k0_chk19 v478), ∀ a x, ((![v478] : Fin 1 → IVec S16 32) a x).toNat < S100000.size a := fun v478 k0_hw19 => k0_hw19
def k0_off23 (k0_t3 : Fin k0_t3_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v480 : BitVec 32 := Scalar.addi v461 c32_i32_291
  let v481 : Index := Scalar.indexCast v480
  ![v481.toNat]

def k0_chk20 (v485 : IVec S16 32) : Prop :=
  (∀ a x, ((![v485] : Fin 1 → IVec S16 32) a x).toNat < S100000.size a)
instance k0_chk20.dec : ∀ (v485 : IVec S16 32), Decidable (k0_chk20 v485) := fun v485 => decidable_of_iff' _ (Iff.of_eq (k0_chk20.eq_1 v485))
theorem k0_idx20_inb : ∀ (v485 : IVec S16 32) (k0_hw20 : k0_chk20 v485), ∀ a x, ((![v485] : Fin 1 → IVec S16 32) a x).toNat < S100000.size a := fun v485 k0_hw20 => k0_hw20
def k0_off24 (k0_t3 : Fin k0_t3_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v487 : BitVec 32 := Scalar.addi v461 c48_i32_292
  let v488 : Index := Scalar.indexCast v487
  ![v488.toNat]

def k0_chk21 (v492 : IVec S16 32) : Prop :=
  (∀ a x, ((![v492] : Fin 1 → IVec S16 32) a x).toNat < S100000.size a)
instance k0_chk21.dec : ∀ (v492 : IVec S16 32), Decidable (k0_chk21 v492) := fun v492 => decidable_of_iff' _ (Iff.of_eq (k0_chk21.eq_1 v492))
theorem k0_idx21_inb : ∀ (v492 : IVec S16 32) (k0_hw21 : k0_chk21 v492), ∀ a x, ((![v492] : Fin 1 → IVec S16 32) a x).toNat < S100000.size a := fun v492 k0_hw21 => k0_hw21
def k0_off25 (k0_t3 : Fin k0_t3_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v494 : BitVec 32 := Scalar.addi v461 c64_i32_293
  let v495 : Index := Scalar.indexCast v494
  ![v495.toNat]

def k0_chk22 (v499 : IVec S16 32) : Prop :=
  (∀ a x, ((![v499] : Fin 1 → IVec S16 32) a x).toNat < S100000.size a)
instance k0_chk22.dec : ∀ (v499 : IVec S16 32), Decidable (k0_chk22 v499) := fun v499 => decidable_of_iff' _ (Iff.of_eq (k0_chk22.eq_1 v499))
theorem k0_idx22_inb : ∀ (v499 : IVec S16 32) (k0_hw22 : k0_chk22 v499), ∀ a x, ((![v499] : Fin 1 → IVec S16 32) a x).toNat < S100000.size a := fun v499 k0_hw22 => k0_hw22
def k0_off26 (k0_t3 : Fin k0_t3_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v501 : BitVec 32 := Scalar.addi v461 c80_i32_294
  let v502 : Index := Scalar.indexCast v501
  ![v502.toNat]

def k0_chk23 (v506 : IVec S16 32) : Prop :=
  (∀ a x, ((![v506] : Fin 1 → IVec S16 32) a x).toNat < S100000.size a)
instance k0_chk23.dec : ∀ (v506 : IVec S16 32), Decidable (k0_chk23 v506) := fun v506 => decidable_of_iff' _ (Iff.of_eq (k0_chk23.eq_1 v506))
theorem k0_idx23_inb : ∀ (v506 : IVec S16 32) (k0_hw23 : k0_chk23 v506), ∀ a x, ((![v506] : Fin 1 → IVec S16 32) a x).toNat < S100000.size a := fun v506 k0_hw23 => k0_hw23
def k0_off27 (k0_t3 : Fin k0_t3_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v508 : BitVec 32 := Scalar.addi v461 c96_i32_295
  let v509 : Index := Scalar.indexCast v508
  ![v509.toNat]

def k0_chk24 (v513 : IVec S16 32) : Prop :=
  (∀ a x, ((![v513] : Fin 1 → IVec S16 32) a x).toNat < S100000.size a)
instance k0_chk24.dec : ∀ (v513 : IVec S16 32), Decidable (k0_chk24 v513) := fun v513 => decidable_of_iff' _ (Iff.of_eq (k0_chk24.eq_1 v513))
theorem k0_idx24_inb : ∀ (v513 : IVec S16 32) (k0_hw24 : k0_chk24 v513), ∀ a x, ((![v513] : Fin 1 → IVec S16 32) a x).toNat < S100000.size a := fun v513 k0_hw24 => k0_hw24
def k0_off28 (k0_t3 : Fin k0_t3_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v515 : BitVec 32 := Scalar.addi v461 c112_i32_296
  let v516 : Index := Scalar.indexCast v515
  ![v516.toNat]

def k0_chk25 (v520 : IVec S16 32) : Prop :=
  (∀ a x, ((![v520] : Fin 1 → IVec S16 32) a x).toNat < S100000.size a)
instance k0_chk25.dec : ∀ (v520 : IVec S16 32), Decidable (k0_chk25 v520) := fun v520 => decidable_of_iff' _ (Iff.of_eq (k0_chk25.eq_1 v520))
theorem k0_idx25_inb : ∀ (v520 : IVec S16 32) (k0_hw25 : k0_chk25 v520), ∀ a x, ((![v520] : Fin 1 → IVec S16 32) a x).toNat < S100000.size a := fun v520 k0_hw25 => k0_hw25
def k0_off29 (k0_t3 : Fin k0_t3_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v522 : BitVec 32 := Scalar.addi v461 c128_i32_297
  let v523 : Index := Scalar.indexCast v522
  ![v523.toNat]

def k0_chk26 (v527 : IVec S16 32) : Prop :=
  (∀ a x, ((![v527] : Fin 1 → IVec S16 32) a x).toNat < S100000.size a)
instance k0_chk26.dec : ∀ (v527 : IVec S16 32), Decidable (k0_chk26 v527) := fun v527 => decidable_of_iff' _ (Iff.of_eq (k0_chk26.eq_1 v527))
theorem k0_idx26_inb : ∀ (v527 : IVec S16 32) (k0_hw26 : k0_chk26 v527), ∀ a x, ((![v527] : Fin 1 → IVec S16 32) a x).toNat < S100000.size a := fun v527 k0_hw26 => k0_hw26
def k0_off30 (k0_t3 : Fin k0_t3_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v529 : BitVec 32 := Scalar.addi v461 c144_i32_299
  let v530 : Index := Scalar.indexCast v529
  ![v530.toNat]

def k0_chk27 (v534 : IVec S16 32) : Prop :=
  (∀ a x, ((![v534] : Fin 1 → IVec S16 32) a x).toNat < S100000.size a)
instance k0_chk27.dec : ∀ (v534 : IVec S16 32), Decidable (k0_chk27 v534) := fun v534 => decidable_of_iff' _ (Iff.of_eq (k0_chk27.eq_1 v534))
theorem k0_idx27_inb : ∀ (v534 : IVec S16 32) (k0_hw27 : k0_chk27 v534), ∀ a x, ((![v534] : Fin 1 → IVec S16 32) a x).toNat < S100000.size a := fun v534 k0_hw27 => k0_hw27
def k0_off31 (k0_t3 : Fin k0_t3_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v536 : BitVec 32 := Scalar.addi v461 c160_i32_300
  let v537 : Index := Scalar.indexCast v536
  ![v537.toNat]

def k0_chk28 (v541 : IVec S16 32) : Prop :=
  (∀ a x, ((![v541] : Fin 1 → IVec S16 32) a x).toNat < S100000.size a)
instance k0_chk28.dec : ∀ (v541 : IVec S16 32), Decidable (k0_chk28 v541) := fun v541 => decidable_of_iff' _ (Iff.of_eq (k0_chk28.eq_1 v541))
theorem k0_idx28_inb : ∀ (v541 : IVec S16 32) (k0_hw28 : k0_chk28 v541), ∀ a x, ((![v541] : Fin 1 → IVec S16 32) a x).toNat < S100000.size a := fun v541 k0_hw28 => k0_hw28
def k0_off32 (k0_t3 : Fin k0_t3_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v543 : BitVec 32 := Scalar.addi v461 c176_i32_301
  let v544 : Index := Scalar.indexCast v543
  ![v544.toNat]

def k0_chk29 (v548 : IVec S16 32) : Prop :=
  (∀ a x, ((![v548] : Fin 1 → IVec S16 32) a x).toNat < S100000.size a)
instance k0_chk29.dec : ∀ (v548 : IVec S16 32), Decidable (k0_chk29 v548) := fun v548 => decidable_of_iff' _ (Iff.of_eq (k0_chk29.eq_1 v548))
theorem k0_idx29_inb : ∀ (v548 : IVec S16 32) (k0_hw29 : k0_chk29 v548), ∀ a x, ((![v548] : Fin 1 → IVec S16 32) a x).toNat < S100000.size a := fun v548 k0_hw29 => k0_hw29
def k0_off33 (k0_t3 : Fin k0_t3_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v550 : BitVec 32 := Scalar.addi v461 c192_i32_302
  let v551 : Index := Scalar.indexCast v550
  ![v551.toNat]

def k0_chk30 (v555 : IVec S16 32) : Prop :=
  (∀ a x, ((![v555] : Fin 1 → IVec S16 32) a x).toNat < S100000.size a)
instance k0_chk30.dec : ∀ (v555 : IVec S16 32), Decidable (k0_chk30 v555) := fun v555 => decidable_of_iff' _ (Iff.of_eq (k0_chk30.eq_1 v555))
theorem k0_idx30_inb : ∀ (v555 : IVec S16 32) (k0_hw30 : k0_chk30 v555), ∀ a x, ((![v555] : Fin 1 → IVec S16 32) a x).toNat < S100000.size a := fun v555 k0_hw30 => k0_hw30
def k0_off34 (k0_t3 : Fin k0_t3_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v557 : BitVec 32 := Scalar.addi v461 c208_i32_303
  let v558 : Index := Scalar.indexCast v557
  ![v558.toNat]

def k0_chk31 (v562 : IVec S16 32) : Prop :=
  (∀ a x, ((![v562] : Fin 1 → IVec S16 32) a x).toNat < S100000.size a)
instance k0_chk31.dec : ∀ (v562 : IVec S16 32), Decidable (k0_chk31 v562) := fun v562 => decidable_of_iff' _ (Iff.of_eq (k0_chk31.eq_1 v562))
theorem k0_idx31_inb : ∀ (v562 : IVec S16 32) (k0_hw31 : k0_chk31 v562), ∀ a x, ((![v562] : Fin 1 → IVec S16 32) a x).toNat < S100000.size a := fun v562 k0_hw31 => k0_hw31
def k0_off35 (k0_t3 : Fin k0_t3_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let v564 : BitVec 32 := Scalar.addi v461 c224_i32_304
  let v565 : Index := Scalar.indexCast v564
  ![v565.toNat]

def k0_chk32 (v569 : IVec S16 32) : Prop :=
  (∀ a x, ((![v569] : Fin 1 → IVec S16 32) a x).toNat < S100000.size a)
instance k0_chk32.dec : ∀ (v569 : IVec S16 32), Decidable (k0_chk32 v569) := fun v569 => decidable_of_iff' _ (Iff.of_eq (k0_chk32.eq_1 v569))
theorem k0_idx32_inb : ∀ (v569 : IVec S16 32) (k0_hw32 : k0_chk32 v569), ∀ a x, ((![v569] : Fin 1 → IVec S16 32) a x).toNat < S100000.size a := fun v569 k0_hw32 => k0_hw32
def k0_off36 (k0_t3 : Fin k0_t3_loop.trips) : Fin 1 → Nat :=
  let c0_i32_281 : BitVec 32 := 0#32
  let c1_i32_283 : BitVec 32 := 1#32
  let arg36 : BitVec 32 := Scf.iv c0_i32_281 c1_i32_283 k0_t3
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off37 (i : grid0.Coords) (k0_t1 : Fin (k0_t1_loop i).trips) : Fin 2 → Nat :=
  let c0_i32_285 : BitVec 32 := 0#32
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c1_i32_21 : BitVec 32 := 1#32
  let arg34 : BitVec 32 := Scf.iv v41 c1_i32_21 k0_t1
  let v460 : BitVec 32 := Scalar.addi c0_i32_285 arg34
  let c8192_i32_r4 : BitVec 32 := 8192#32
  ![v460.toNat, 8192]
@[reducible] def k0_t4_loop (i : grid0.Coords) : Scf.Loop 32 :=
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c36_i32_17 : BitVec 32 := 36#32
  let c0_i32_16 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c36_i32_17 v43
  let v48 : BitVec 32 := Scalar.subi v44 v41
  let c1_i32_20 : BitVec 32 := 1#32
  let v50 : BitVec 32 := Scalar.divsi v48 c1_i32_20
  let v51 : BitVec 32 := Scalar.muli v50 c1_i32_20
  let v52 : BitVec 32 := Scalar.addi v41 v51
  let v49 : BitVec 32 := Scalar.addi v41 v48
  let c1_i32_22 : BitVec 32 := 1#32
  ⟨v52, v49, c1_i32_22⟩
def k0_off38 (i : grid0.Coords) (k0_t4 : Fin (k0_t4_loop i).trips) : Fin 2 → Nat :=
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c36_i32_17 : BitVec 32 := 36#32
  let c0_i32_16 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c36_i32_17 v43
  let v48 : BitVec 32 := Scalar.subi v44 v41
  let c1_i32_20 : BitVec 32 := 1#32
  let v50 : BitVec 32 := Scalar.divsi v48 c1_i32_20
  let v51 : BitVec 32 := Scalar.muli v50 c1_i32_20
  let v52 : BitVec 32 := Scalar.addi v41 v51
  let c1_i32_22 : BitVec 32 := 1#32
  let arg34 : BitVec 32 := Scf.iv v52 c1_i32_22 k0_t4
  let c0_i32_287_r5 : BitVec 32 := 0#32
  ![arg34.toNat, 0]
@[reducible] def k0_t5_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off39 (k0_t5 : Fin k0_t5_loop.trips) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk33 (v464 : IVec S16 32) : Prop :=
  (∀ a x, ((![v464] : Fin 1 → IVec S16 32) a x).toNat < S100000.size a)
instance k0_chk33.dec : ∀ (v464 : IVec S16 32), Decidable (k0_chk33 v464) := fun v464 => decidable_of_iff' _ (Iff.of_eq (k0_chk33.eq_1 v464))
theorem k0_idx33_inb : ∀ (v464 : IVec S16 32) (k0_hw33 : k0_chk33 v464), ∀ a x, ((![v464] : Fin 1 → IVec S16 32) a x).toNat < S100000.size a := fun v464 k0_hw33 => k0_hw33
def k0_off40 (k0_t5 : Fin k0_t5_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v466 : BitVec 32 := Scalar.addi v461 c0_i32_288
  let v467 : Index := Scalar.indexCast v466
  ![v467.toNat]

def k0_chk34 (v471 : IVec S16 32) : Prop :=
  (∀ a x, ((![v471] : Fin 1 → IVec S16 32) a x).toNat < S100000.size a)
instance k0_chk34.dec : ∀ (v471 : IVec S16 32), Decidable (k0_chk34 v471) := fun v471 => decidable_of_iff' _ (Iff.of_eq (k0_chk34.eq_1 v471))
theorem k0_idx34_inb : ∀ (v471 : IVec S16 32) (k0_hw34 : k0_chk34 v471), ∀ a x, ((![v471] : Fin 1 → IVec S16 32) a x).toNat < S100000.size a := fun v471 k0_hw34 => k0_hw34
def k0_off41 (k0_t5 : Fin k0_t5_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v473 : BitVec 32 := Scalar.addi v461 c16_i32_289
  let v474 : Index := Scalar.indexCast v473
  ![v474.toNat]

def k0_chk35 (v478 : IVec S16 32) : Prop :=
  (∀ a x, ((![v478] : Fin 1 → IVec S16 32) a x).toNat < S100000.size a)
instance k0_chk35.dec : ∀ (v478 : IVec S16 32), Decidable (k0_chk35 v478) := fun v478 => decidable_of_iff' _ (Iff.of_eq (k0_chk35.eq_1 v478))
theorem k0_idx35_inb : ∀ (v478 : IVec S16 32) (k0_hw35 : k0_chk35 v478), ∀ a x, ((![v478] : Fin 1 → IVec S16 32) a x).toNat < S100000.size a := fun v478 k0_hw35 => k0_hw35
def k0_off42 (k0_t5 : Fin k0_t5_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v480 : BitVec 32 := Scalar.addi v461 c32_i32_291
  let v481 : Index := Scalar.indexCast v480
  ![v481.toNat]

def k0_chk36 (v485 : IVec S16 32) : Prop :=
  (∀ a x, ((![v485] : Fin 1 → IVec S16 32) a x).toNat < S100000.size a)
instance k0_chk36.dec : ∀ (v485 : IVec S16 32), Decidable (k0_chk36 v485) := fun v485 => decidable_of_iff' _ (Iff.of_eq (k0_chk36.eq_1 v485))
theorem k0_idx36_inb : ∀ (v485 : IVec S16 32) (k0_hw36 : k0_chk36 v485), ∀ a x, ((![v485] : Fin 1 → IVec S16 32) a x).toNat < S100000.size a := fun v485 k0_hw36 => k0_hw36
def k0_off43 (k0_t5 : Fin k0_t5_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v487 : BitVec 32 := Scalar.addi v461 c48_i32_292
  let v488 : Index := Scalar.indexCast v487
  ![v488.toNat]

def k0_chk37 (v492 : IVec S16 32) : Prop :=
  (∀ a x, ((![v492] : Fin 1 → IVec S16 32) a x).toNat < S100000.size a)
instance k0_chk37.dec : ∀ (v492 : IVec S16 32), Decidable (k0_chk37 v492) := fun v492 => decidable_of_iff' _ (Iff.of_eq (k0_chk37.eq_1 v492))
theorem k0_idx37_inb : ∀ (v492 : IVec S16 32) (k0_hw37 : k0_chk37 v492), ∀ a x, ((![v492] : Fin 1 → IVec S16 32) a x).toNat < S100000.size a := fun v492 k0_hw37 => k0_hw37
def k0_off44 (k0_t5 : Fin k0_t5_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v494 : BitVec 32 := Scalar.addi v461 c64_i32_293
  let v495 : Index := Scalar.indexCast v494
  ![v495.toNat]

def k0_chk38 (v499 : IVec S16 32) : Prop :=
  (∀ a x, ((![v499] : Fin 1 → IVec S16 32) a x).toNat < S100000.size a)
instance k0_chk38.dec : ∀ (v499 : IVec S16 32), Decidable (k0_chk38 v499) := fun v499 => decidable_of_iff' _ (Iff.of_eq (k0_chk38.eq_1 v499))
theorem k0_idx38_inb : ∀ (v499 : IVec S16 32) (k0_hw38 : k0_chk38 v499), ∀ a x, ((![v499] : Fin 1 → IVec S16 32) a x).toNat < S100000.size a := fun v499 k0_hw38 => k0_hw38
def k0_off45 (k0_t5 : Fin k0_t5_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v501 : BitVec 32 := Scalar.addi v461 c80_i32_294
  let v502 : Index := Scalar.indexCast v501
  ![v502.toNat]

def k0_chk39 (v506 : IVec S16 32) : Prop :=
  (∀ a x, ((![v506] : Fin 1 → IVec S16 32) a x).toNat < S100000.size a)
instance k0_chk39.dec : ∀ (v506 : IVec S16 32), Decidable (k0_chk39 v506) := fun v506 => decidable_of_iff' _ (Iff.of_eq (k0_chk39.eq_1 v506))
theorem k0_idx39_inb : ∀ (v506 : IVec S16 32) (k0_hw39 : k0_chk39 v506), ∀ a x, ((![v506] : Fin 1 → IVec S16 32) a x).toNat < S100000.size a := fun v506 k0_hw39 => k0_hw39
def k0_off46 (k0_t5 : Fin k0_t5_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v508 : BitVec 32 := Scalar.addi v461 c96_i32_295
  let v509 : Index := Scalar.indexCast v508
  ![v509.toNat]

def k0_chk40 (v513 : IVec S16 32) : Prop :=
  (∀ a x, ((![v513] : Fin 1 → IVec S16 32) a x).toNat < S100000.size a)
instance k0_chk40.dec : ∀ (v513 : IVec S16 32), Decidable (k0_chk40 v513) := fun v513 => decidable_of_iff' _ (Iff.of_eq (k0_chk40.eq_1 v513))
theorem k0_idx40_inb : ∀ (v513 : IVec S16 32) (k0_hw40 : k0_chk40 v513), ∀ a x, ((![v513] : Fin 1 → IVec S16 32) a x).toNat < S100000.size a := fun v513 k0_hw40 => k0_hw40
def k0_off47 (k0_t5 : Fin k0_t5_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v515 : BitVec 32 := Scalar.addi v461 c112_i32_296
  let v516 : Index := Scalar.indexCast v515
  ![v516.toNat]

def k0_chk41 (v520 : IVec S16 32) : Prop :=
  (∀ a x, ((![v520] : Fin 1 → IVec S16 32) a x).toNat < S100000.size a)
instance k0_chk41.dec : ∀ (v520 : IVec S16 32), Decidable (k0_chk41 v520) := fun v520 => decidable_of_iff' _ (Iff.of_eq (k0_chk41.eq_1 v520))
theorem k0_idx41_inb : ∀ (v520 : IVec S16 32) (k0_hw41 : k0_chk41 v520), ∀ a x, ((![v520] : Fin 1 → IVec S16 32) a x).toNat < S100000.size a := fun v520 k0_hw41 => k0_hw41
def k0_off48 (k0_t5 : Fin k0_t5_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v522 : BitVec 32 := Scalar.addi v461 c128_i32_297
  let v523 : Index := Scalar.indexCast v522
  ![v523.toNat]

def k0_chk42 (v527 : IVec S16 32) : Prop :=
  (∀ a x, ((![v527] : Fin 1 → IVec S16 32) a x).toNat < S100000.size a)
instance k0_chk42.dec : ∀ (v527 : IVec S16 32), Decidable (k0_chk42 v527) := fun v527 => decidable_of_iff' _ (Iff.of_eq (k0_chk42.eq_1 v527))
theorem k0_idx42_inb : ∀ (v527 : IVec S16 32) (k0_hw42 : k0_chk42 v527), ∀ a x, ((![v527] : Fin 1 → IVec S16 32) a x).toNat < S100000.size a := fun v527 k0_hw42 => k0_hw42
def k0_off49 (k0_t5 : Fin k0_t5_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v529 : BitVec 32 := Scalar.addi v461 c144_i32_299
  let v530 : Index := Scalar.indexCast v529
  ![v530.toNat]

def k0_chk43 (v534 : IVec S16 32) : Prop :=
  (∀ a x, ((![v534] : Fin 1 → IVec S16 32) a x).toNat < S100000.size a)
instance k0_chk43.dec : ∀ (v534 : IVec S16 32), Decidable (k0_chk43 v534) := fun v534 => decidable_of_iff' _ (Iff.of_eq (k0_chk43.eq_1 v534))
theorem k0_idx43_inb : ∀ (v534 : IVec S16 32) (k0_hw43 : k0_chk43 v534), ∀ a x, ((![v534] : Fin 1 → IVec S16 32) a x).toNat < S100000.size a := fun v534 k0_hw43 => k0_hw43
def k0_off50 (k0_t5 : Fin k0_t5_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v536 : BitVec 32 := Scalar.addi v461 c160_i32_300
  let v537 : Index := Scalar.indexCast v536
  ![v537.toNat]

def k0_chk44 (v541 : IVec S16 32) : Prop :=
  (∀ a x, ((![v541] : Fin 1 → IVec S16 32) a x).toNat < S100000.size a)
instance k0_chk44.dec : ∀ (v541 : IVec S16 32), Decidable (k0_chk44 v541) := fun v541 => decidable_of_iff' _ (Iff.of_eq (k0_chk44.eq_1 v541))
theorem k0_idx44_inb : ∀ (v541 : IVec S16 32) (k0_hw44 : k0_chk44 v541), ∀ a x, ((![v541] : Fin 1 → IVec S16 32) a x).toNat < S100000.size a := fun v541 k0_hw44 => k0_hw44
def k0_off51 (k0_t5 : Fin k0_t5_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v543 : BitVec 32 := Scalar.addi v461 c176_i32_301
  let v544 : Index := Scalar.indexCast v543
  ![v544.toNat]

def k0_chk45 (v548 : IVec S16 32) : Prop :=
  (∀ a x, ((![v548] : Fin 1 → IVec S16 32) a x).toNat < S100000.size a)
instance k0_chk45.dec : ∀ (v548 : IVec S16 32), Decidable (k0_chk45 v548) := fun v548 => decidable_of_iff' _ (Iff.of_eq (k0_chk45.eq_1 v548))
theorem k0_idx45_inb : ∀ (v548 : IVec S16 32) (k0_hw45 : k0_chk45 v548), ∀ a x, ((![v548] : Fin 1 → IVec S16 32) a x).toNat < S100000.size a := fun v548 k0_hw45 => k0_hw45
def k0_off52 (k0_t5 : Fin k0_t5_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v550 : BitVec 32 := Scalar.addi v461 c192_i32_302
  let v551 : Index := Scalar.indexCast v550
  ![v551.toNat]

def k0_chk46 (v555 : IVec S16 32) : Prop :=
  (∀ a x, ((![v555] : Fin 1 → IVec S16 32) a x).toNat < S100000.size a)
instance k0_chk46.dec : ∀ (v555 : IVec S16 32), Decidable (k0_chk46 v555) := fun v555 => decidable_of_iff' _ (Iff.of_eq (k0_chk46.eq_1 v555))
theorem k0_idx46_inb : ∀ (v555 : IVec S16 32) (k0_hw46 : k0_chk46 v555), ∀ a x, ((![v555] : Fin 1 → IVec S16 32) a x).toNat < S100000.size a := fun v555 k0_hw46 => k0_hw46
def k0_off53 (k0_t5 : Fin k0_t5_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v557 : BitVec 32 := Scalar.addi v461 c208_i32_303
  let v558 : Index := Scalar.indexCast v557
  ![v558.toNat]

def k0_chk47 (v562 : IVec S16 32) : Prop :=
  (∀ a x, ((![v562] : Fin 1 → IVec S16 32) a x).toNat < S100000.size a)
instance k0_chk47.dec : ∀ (v562 : IVec S16 32), Decidable (k0_chk47 v562) := fun v562 => decidable_of_iff' _ (Iff.of_eq (k0_chk47.eq_1 v562))
theorem k0_idx47_inb : ∀ (v562 : IVec S16 32) (k0_hw47 : k0_chk47 v562), ∀ a x, ((![v562] : Fin 1 → IVec S16 32) a x).toNat < S100000.size a := fun v562 k0_hw47 => k0_hw47
def k0_off54 (k0_t5 : Fin k0_t5_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let v564 : BitVec 32 := Scalar.addi v461 c224_i32_304
  let v565 : Index := Scalar.indexCast v564
  ![v565.toNat]

def k0_chk48 (v569 : IVec S16 32) : Prop :=
  (∀ a x, ((![v569] : Fin 1 → IVec S16 32) a x).toNat < S100000.size a)
instance k0_chk48.dec : ∀ (v569 : IVec S16 32), Decidable (k0_chk48 v569) := fun v569 => decidable_of_iff' _ (Iff.of_eq (k0_chk48.eq_1 v569))
theorem k0_idx48_inb : ∀ (v569 : IVec S16 32) (k0_hw48 : k0_chk48 v569), ∀ a x, ((![v569] : Fin 1 → IVec S16 32) a x).toNat < S100000.size a := fun v569 k0_hw48 => k0_hw48
def k0_off55 (k0_t5 : Fin k0_t5_loop.trips) : Fin 1 → Nat :=
  let c0_i32_275 : BitVec 32 := 0#32
  let c1_i32_277 : BitVec 32 := 1#32
  let arg36 : BitVec 32 := Scf.iv c0_i32_275 c1_i32_277 k0_t5
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off56 (i : grid0.Coords) (k0_t4 : Fin (k0_t4_loop i).trips) : Fin 2 → Nat :=
  let c0_i32_279 : BitVec 32 := 0#32
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c36_i32_17 : BitVec 32 := 36#32
  let c0_i32_16 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c36_i32_17 v43
  let v48 : BitVec 32 := Scalar.subi v44 v41
  let c1_i32_20 : BitVec 32 := 1#32
  let v50 : BitVec 32 := Scalar.divsi v48 c1_i32_20
  let v51 : BitVec 32 := Scalar.muli v50 c1_i32_20
  let v52 : BitVec 32 := Scalar.addi v41 v51
  let c1_i32_22 : BitVec 32 := 1#32
  let arg34 : BitVec 32 := Scf.iv v52 c1_i32_22 k0_t4
  let v457 : BitVec 32 := Scalar.addi c0_i32_279 arg34
  let c0_i32_287_r6 : BitVec 32 := 0#32
  ![v457.toNat, 0]
@[reducible] def k0_t6_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off57 (k0_t6 : Fin k0_t6_loop.trips) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk49 (v464 : IVec S16 32) : Prop :=
  (∀ a x, ((![v464] : Fin 1 → IVec S16 32) a x).toNat < S100000.size a)
instance k0_chk49.dec : ∀ (v464 : IVec S16 32), Decidable (k0_chk49 v464) := fun v464 => decidable_of_iff' _ (Iff.of_eq (k0_chk49.eq_1 v464))
theorem k0_idx49_inb : ∀ (v464 : IVec S16 32) (k0_hw49 : k0_chk49 v464), ∀ a x, ((![v464] : Fin 1 → IVec S16 32) a x).toNat < S100000.size a := fun v464 k0_hw49 => k0_hw49
def k0_off58 (k0_t6 : Fin k0_t6_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v466 : BitVec 32 := Scalar.addi v461 c0_i32_288
  let v467 : Index := Scalar.indexCast v466
  ![v467.toNat]

def k0_chk50 (v471 : IVec S16 32) : Prop :=
  (∀ a x, ((![v471] : Fin 1 → IVec S16 32) a x).toNat < S100000.size a)
instance k0_chk50.dec : ∀ (v471 : IVec S16 32), Decidable (k0_chk50 v471) := fun v471 => decidable_of_iff' _ (Iff.of_eq (k0_chk50.eq_1 v471))
theorem k0_idx50_inb : ∀ (v471 : IVec S16 32) (k0_hw50 : k0_chk50 v471), ∀ a x, ((![v471] : Fin 1 → IVec S16 32) a x).toNat < S100000.size a := fun v471 k0_hw50 => k0_hw50
def k0_off59 (k0_t6 : Fin k0_t6_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v473 : BitVec 32 := Scalar.addi v461 c16_i32_289
  let v474 : Index := Scalar.indexCast v473
  ![v474.toNat]

def k0_chk51 (v478 : IVec S16 32) : Prop :=
  (∀ a x, ((![v478] : Fin 1 → IVec S16 32) a x).toNat < S100000.size a)
instance k0_chk51.dec : ∀ (v478 : IVec S16 32), Decidable (k0_chk51 v478) := fun v478 => decidable_of_iff' _ (Iff.of_eq (k0_chk51.eq_1 v478))
theorem k0_idx51_inb : ∀ (v478 : IVec S16 32) (k0_hw51 : k0_chk51 v478), ∀ a x, ((![v478] : Fin 1 → IVec S16 32) a x).toNat < S100000.size a := fun v478 k0_hw51 => k0_hw51
def k0_off60 (k0_t6 : Fin k0_t6_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v480 : BitVec 32 := Scalar.addi v461 c32_i32_291
  let v481 : Index := Scalar.indexCast v480
  ![v481.toNat]

def k0_chk52 (v485 : IVec S16 32) : Prop :=
  (∀ a x, ((![v485] : Fin 1 → IVec S16 32) a x).toNat < S100000.size a)
instance k0_chk52.dec : ∀ (v485 : IVec S16 32), Decidable (k0_chk52 v485) := fun v485 => decidable_of_iff' _ (Iff.of_eq (k0_chk52.eq_1 v485))
theorem k0_idx52_inb : ∀ (v485 : IVec S16 32) (k0_hw52 : k0_chk52 v485), ∀ a x, ((![v485] : Fin 1 → IVec S16 32) a x).toNat < S100000.size a := fun v485 k0_hw52 => k0_hw52
def k0_off61 (k0_t6 : Fin k0_t6_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v487 : BitVec 32 := Scalar.addi v461 c48_i32_292
  let v488 : Index := Scalar.indexCast v487
  ![v488.toNat]

def k0_chk53 (v492 : IVec S16 32) : Prop :=
  (∀ a x, ((![v492] : Fin 1 → IVec S16 32) a x).toNat < S100000.size a)
instance k0_chk53.dec : ∀ (v492 : IVec S16 32), Decidable (k0_chk53 v492) := fun v492 => decidable_of_iff' _ (Iff.of_eq (k0_chk53.eq_1 v492))
theorem k0_idx53_inb : ∀ (v492 : IVec S16 32) (k0_hw53 : k0_chk53 v492), ∀ a x, ((![v492] : Fin 1 → IVec S16 32) a x).toNat < S100000.size a := fun v492 k0_hw53 => k0_hw53
def k0_off62 (k0_t6 : Fin k0_t6_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v494 : BitVec 32 := Scalar.addi v461 c64_i32_293
  let v495 : Index := Scalar.indexCast v494
  ![v495.toNat]

def k0_chk54 (v499 : IVec S16 32) : Prop :=
  (∀ a x, ((![v499] : Fin 1 → IVec S16 32) a x).toNat < S100000.size a)
instance k0_chk54.dec : ∀ (v499 : IVec S16 32), Decidable (k0_chk54 v499) := fun v499 => decidable_of_iff' _ (Iff.of_eq (k0_chk54.eq_1 v499))
theorem k0_idx54_inb : ∀ (v499 : IVec S16 32) (k0_hw54 : k0_chk54 v499), ∀ a x, ((![v499] : Fin 1 → IVec S16 32) a x).toNat < S100000.size a := fun v499 k0_hw54 => k0_hw54
def k0_off63 (k0_t6 : Fin k0_t6_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v501 : BitVec 32 := Scalar.addi v461 c80_i32_294
  let v502 : Index := Scalar.indexCast v501
  ![v502.toNat]

def k0_chk55 (v506 : IVec S16 32) : Prop :=
  (∀ a x, ((![v506] : Fin 1 → IVec S16 32) a x).toNat < S100000.size a)
instance k0_chk55.dec : ∀ (v506 : IVec S16 32), Decidable (k0_chk55 v506) := fun v506 => decidable_of_iff' _ (Iff.of_eq (k0_chk55.eq_1 v506))
theorem k0_idx55_inb : ∀ (v506 : IVec S16 32) (k0_hw55 : k0_chk55 v506), ∀ a x, ((![v506] : Fin 1 → IVec S16 32) a x).toNat < S100000.size a := fun v506 k0_hw55 => k0_hw55
def k0_off64 (k0_t6 : Fin k0_t6_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v508 : BitVec 32 := Scalar.addi v461 c96_i32_295
  let v509 : Index := Scalar.indexCast v508
  ![v509.toNat]

def k0_chk56 (v513 : IVec S16 32) : Prop :=
  (∀ a x, ((![v513] : Fin 1 → IVec S16 32) a x).toNat < S100000.size a)
instance k0_chk56.dec : ∀ (v513 : IVec S16 32), Decidable (k0_chk56 v513) := fun v513 => decidable_of_iff' _ (Iff.of_eq (k0_chk56.eq_1 v513))
theorem k0_idx56_inb : ∀ (v513 : IVec S16 32) (k0_hw56 : k0_chk56 v513), ∀ a x, ((![v513] : Fin 1 → IVec S16 32) a x).toNat < S100000.size a := fun v513 k0_hw56 => k0_hw56
def k0_off65 (k0_t6 : Fin k0_t6_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v515 : BitVec 32 := Scalar.addi v461 c112_i32_296
  let v516 : Index := Scalar.indexCast v515
  ![v516.toNat]

def k0_chk57 (v520 : IVec S16 32) : Prop :=
  (∀ a x, ((![v520] : Fin 1 → IVec S16 32) a x).toNat < S100000.size a)
instance k0_chk57.dec : ∀ (v520 : IVec S16 32), Decidable (k0_chk57 v520) := fun v520 => decidable_of_iff' _ (Iff.of_eq (k0_chk57.eq_1 v520))
theorem k0_idx57_inb : ∀ (v520 : IVec S16 32) (k0_hw57 : k0_chk57 v520), ∀ a x, ((![v520] : Fin 1 → IVec S16 32) a x).toNat < S100000.size a := fun v520 k0_hw57 => k0_hw57
def k0_off66 (k0_t6 : Fin k0_t6_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v522 : BitVec 32 := Scalar.addi v461 c128_i32_297
  let v523 : Index := Scalar.indexCast v522
  ![v523.toNat]

def k0_chk58 (v527 : IVec S16 32) : Prop :=
  (∀ a x, ((![v527] : Fin 1 → IVec S16 32) a x).toNat < S100000.size a)
instance k0_chk58.dec : ∀ (v527 : IVec S16 32), Decidable (k0_chk58 v527) := fun v527 => decidable_of_iff' _ (Iff.of_eq (k0_chk58.eq_1 v527))
theorem k0_idx58_inb : ∀ (v527 : IVec S16 32) (k0_hw58 : k0_chk58 v527), ∀ a x, ((![v527] : Fin 1 → IVec S16 32) a x).toNat < S100000.size a := fun v527 k0_hw58 => k0_hw58
def k0_off67 (k0_t6 : Fin k0_t6_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v529 : BitVec 32 := Scalar.addi v461 c144_i32_299
  let v530 : Index := Scalar.indexCast v529
  ![v530.toNat]

def k0_chk59 (v534 : IVec S16 32) : Prop :=
  (∀ a x, ((![v534] : Fin 1 → IVec S16 32) a x).toNat < S100000.size a)
instance k0_chk59.dec : ∀ (v534 : IVec S16 32), Decidable (k0_chk59 v534) := fun v534 => decidable_of_iff' _ (Iff.of_eq (k0_chk59.eq_1 v534))
theorem k0_idx59_inb : ∀ (v534 : IVec S16 32) (k0_hw59 : k0_chk59 v534), ∀ a x, ((![v534] : Fin 1 → IVec S16 32) a x).toNat < S100000.size a := fun v534 k0_hw59 => k0_hw59
def k0_off68 (k0_t6 : Fin k0_t6_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v536 : BitVec 32 := Scalar.addi v461 c160_i32_300
  let v537 : Index := Scalar.indexCast v536
  ![v537.toNat]

def k0_chk60 (v541 : IVec S16 32) : Prop :=
  (∀ a x, ((![v541] : Fin 1 → IVec S16 32) a x).toNat < S100000.size a)
instance k0_chk60.dec : ∀ (v541 : IVec S16 32), Decidable (k0_chk60 v541) := fun v541 => decidable_of_iff' _ (Iff.of_eq (k0_chk60.eq_1 v541))
theorem k0_idx60_inb : ∀ (v541 : IVec S16 32) (k0_hw60 : k0_chk60 v541), ∀ a x, ((![v541] : Fin 1 → IVec S16 32) a x).toNat < S100000.size a := fun v541 k0_hw60 => k0_hw60
def k0_off69 (k0_t6 : Fin k0_t6_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v543 : BitVec 32 := Scalar.addi v461 c176_i32_301
  let v544 : Index := Scalar.indexCast v543
  ![v544.toNat]

def k0_chk61 (v548 : IVec S16 32) : Prop :=
  (∀ a x, ((![v548] : Fin 1 → IVec S16 32) a x).toNat < S100000.size a)
instance k0_chk61.dec : ∀ (v548 : IVec S16 32), Decidable (k0_chk61 v548) := fun v548 => decidable_of_iff' _ (Iff.of_eq (k0_chk61.eq_1 v548))
theorem k0_idx61_inb : ∀ (v548 : IVec S16 32) (k0_hw61 : k0_chk61 v548), ∀ a x, ((![v548] : Fin 1 → IVec S16 32) a x).toNat < S100000.size a := fun v548 k0_hw61 => k0_hw61
def k0_off70 (k0_t6 : Fin k0_t6_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v550 : BitVec 32 := Scalar.addi v461 c192_i32_302
  let v551 : Index := Scalar.indexCast v550
  ![v551.toNat]

def k0_chk62 (v555 : IVec S16 32) : Prop :=
  (∀ a x, ((![v555] : Fin 1 → IVec S16 32) a x).toNat < S100000.size a)
instance k0_chk62.dec : ∀ (v555 : IVec S16 32), Decidable (k0_chk62 v555) := fun v555 => decidable_of_iff' _ (Iff.of_eq (k0_chk62.eq_1 v555))
theorem k0_idx62_inb : ∀ (v555 : IVec S16 32) (k0_hw62 : k0_chk62 v555), ∀ a x, ((![v555] : Fin 1 → IVec S16 32) a x).toNat < S100000.size a := fun v555 k0_hw62 => k0_hw62
def k0_off71 (k0_t6 : Fin k0_t6_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v557 : BitVec 32 := Scalar.addi v461 c208_i32_303
  let v558 : Index := Scalar.indexCast v557
  ![v558.toNat]

def k0_chk63 (v562 : IVec S16 32) : Prop :=
  (∀ a x, ((![v562] : Fin 1 → IVec S16 32) a x).toNat < S100000.size a)
instance k0_chk63.dec : ∀ (v562 : IVec S16 32), Decidable (k0_chk63 v562) := fun v562 => decidable_of_iff' _ (Iff.of_eq (k0_chk63.eq_1 v562))
theorem k0_idx63_inb : ∀ (v562 : IVec S16 32) (k0_hw63 : k0_chk63 v562), ∀ a x, ((![v562] : Fin 1 → IVec S16 32) a x).toNat < S100000.size a := fun v562 k0_hw63 => k0_hw63
def k0_off72 (k0_t6 : Fin k0_t6_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let v564 : BitVec 32 := Scalar.addi v461 c224_i32_304
  let v565 : Index := Scalar.indexCast v564
  ![v565.toNat]

def k0_chk64 (v569 : IVec S16 32) : Prop :=
  (∀ a x, ((![v569] : Fin 1 → IVec S16 32) a x).toNat < S100000.size a)
instance k0_chk64.dec : ∀ (v569 : IVec S16 32), Decidable (k0_chk64 v569) := fun v569 => decidable_of_iff' _ (Iff.of_eq (k0_chk64.eq_1 v569))
theorem k0_idx64_inb : ∀ (v569 : IVec S16 32) (k0_hw64 : k0_chk64 v569), ∀ a x, ((![v569] : Fin 1 → IVec S16 32) a x).toNat < S100000.size a := fun v569 k0_hw64 => k0_hw64
def k0_off73 (k0_t6 : Fin k0_t6_loop.trips) : Fin 1 → Nat :=
  let c0_i32_281 : BitVec 32 := 0#32
  let c1_i32_283 : BitVec 32 := 1#32
  let arg36 : BitVec 32 := Scf.iv c0_i32_281 c1_i32_283 k0_t6
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off74 (i : grid0.Coords) (k0_t4 : Fin (k0_t4_loop i).trips) : Fin 2 → Nat :=
  let c0_i32_285 : BitVec 32 := 0#32
  let c36_i32 : BitVec 32 := 36#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v39 : BitVec 32 := Scalar.subi v19 c0_i32_13
  let v40 : BitVec 32 := Scalar.maxsi c0_i32_14 v39
  let v41 : BitVec 32 := Scalar.minsi c36_i32 v40
  let c36_i32_17 : BitVec 32 := 36#32
  let c0_i32_16 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c0_i32_15 : BitVec 32 := 0#32
  let v42 : BitVec 32 := Scalar.subi v38 c0_i32_15
  let v43 : BitVec 32 := Scalar.maxsi c0_i32_16 v42
  let v44 : BitVec 32 := Scalar.minsi c36_i32_17 v43
  let v48 : BitVec 32 := Scalar.subi v44 v41
  let c1_i32_20 : BitVec 32 := 1#32
  let v50 : BitVec 32 := Scalar.divsi v48 c1_i32_20
  let v51 : BitVec 32 := Scalar.muli v50 c1_i32_20
  let v52 : BitVec 32 := Scalar.addi v41 v51
  let c1_i32_22 : BitVec 32 := 1#32
  let arg34 : BitVec 32 := Scf.iv v52 c1_i32_22 k0_t4
  let v460 : BitVec 32 := Scalar.addi c0_i32_285 arg34
  let c8192_i32_r7 : BitVec 32 := 8192#32
  ![v460.toNat, 8192]
@[reducible] def k0_t7_loop (i : grid0.Coords) : Scf.Loop 32 :=
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c36_i32_28 : BitVec 32 := 36#32
  let c0_i32_27 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c36_i32_26 : BitVec 32 := 36#32
  let v58 : BitVec 32 := Scalar.subi v38 c36_i32_26
  let v59 : BitVec 32 := Scalar.maxsi c0_i32_27 v58
  let v60 : BitVec 32 := Scalar.minsi c36_i32_28 v59
  let v64 : BitVec 32 := Scalar.subi v60 v57
  let c1_i32_31 : BitVec 32 := 1#32
  let v66 : BitVec 32 := Scalar.divsi v64 c1_i32_31
  let v67 : BitVec 32 := Scalar.muli v66 c1_i32_31
  let v68 : BitVec 32 := Scalar.addi v57 v67
  let c1_i32_32 : BitVec 32 := 1#32
  ⟨v57, v68, c1_i32_32⟩
def k0_off75 (i : grid0.Coords) (k0_t7 : Fin (k0_t7_loop i).trips) : Fin 2 → Nat :=
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c1_i32_32 : BitVec 32 := 1#32
  let arg34 : BitVec 32 := Scf.iv v57 c1_i32_32 k0_t7
  let c0_i32_287_r10 : BitVec 32 := 0#32
  ![arg34.toNat, 0]
@[reducible] def k0_t8_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off76 (k0_t8 : Fin k0_t8_loop.trips) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk65 (v464 : IVec S16 32) : Prop :=
  (∀ a x, ((![v464] : Fin 1 → IVec S16 32) a x).toNat < S100000.size a)
instance k0_chk65.dec : ∀ (v464 : IVec S16 32), Decidable (k0_chk65 v464) := fun v464 => decidable_of_iff' _ (Iff.of_eq (k0_chk65.eq_1 v464))
theorem k0_idx65_inb : ∀ (v464 : IVec S16 32) (k0_hw65 : k0_chk65 v464), ∀ a x, ((![v464] : Fin 1 → IVec S16 32) a x).toNat < S100000.size a := fun v464 k0_hw65 => k0_hw65
def k0_off77 (k0_t8 : Fin k0_t8_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v466 : BitVec 32 := Scalar.addi v461 c0_i32_288
  let v467 : Index := Scalar.indexCast v466
  ![v467.toNat]

def k0_chk66 (v471 : IVec S16 32) : Prop :=
  (∀ a x, ((![v471] : Fin 1 → IVec S16 32) a x).toNat < S100000.size a)
instance k0_chk66.dec : ∀ (v471 : IVec S16 32), Decidable (k0_chk66 v471) := fun v471 => decidable_of_iff' _ (Iff.of_eq (k0_chk66.eq_1 v471))
theorem k0_idx66_inb : ∀ (v471 : IVec S16 32) (k0_hw66 : k0_chk66 v471), ∀ a x, ((![v471] : Fin 1 → IVec S16 32) a x).toNat < S100000.size a := fun v471 k0_hw66 => k0_hw66
def k0_off78 (k0_t8 : Fin k0_t8_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v473 : BitVec 32 := Scalar.addi v461 c16_i32_289
  let v474 : Index := Scalar.indexCast v473
  ![v474.toNat]

def k0_chk67 (v478 : IVec S16 32) : Prop :=
  (∀ a x, ((![v478] : Fin 1 → IVec S16 32) a x).toNat < S100000.size a)
instance k0_chk67.dec : ∀ (v478 : IVec S16 32), Decidable (k0_chk67 v478) := fun v478 => decidable_of_iff' _ (Iff.of_eq (k0_chk67.eq_1 v478))
theorem k0_idx67_inb : ∀ (v478 : IVec S16 32) (k0_hw67 : k0_chk67 v478), ∀ a x, ((![v478] : Fin 1 → IVec S16 32) a x).toNat < S100000.size a := fun v478 k0_hw67 => k0_hw67
def k0_off79 (k0_t8 : Fin k0_t8_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v480 : BitVec 32 := Scalar.addi v461 c32_i32_291
  let v481 : Index := Scalar.indexCast v480
  ![v481.toNat]

def k0_chk68 (v485 : IVec S16 32) : Prop :=
  (∀ a x, ((![v485] : Fin 1 → IVec S16 32) a x).toNat < S100000.size a)
instance k0_chk68.dec : ∀ (v485 : IVec S16 32), Decidable (k0_chk68 v485) := fun v485 => decidable_of_iff' _ (Iff.of_eq (k0_chk68.eq_1 v485))
theorem k0_idx68_inb : ∀ (v485 : IVec S16 32) (k0_hw68 : k0_chk68 v485), ∀ a x, ((![v485] : Fin 1 → IVec S16 32) a x).toNat < S100000.size a := fun v485 k0_hw68 => k0_hw68
def k0_off80 (k0_t8 : Fin k0_t8_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v487 : BitVec 32 := Scalar.addi v461 c48_i32_292
  let v488 : Index := Scalar.indexCast v487
  ![v488.toNat]

def k0_chk69 (v492 : IVec S16 32) : Prop :=
  (∀ a x, ((![v492] : Fin 1 → IVec S16 32) a x).toNat < S100000.size a)
instance k0_chk69.dec : ∀ (v492 : IVec S16 32), Decidable (k0_chk69 v492) := fun v492 => decidable_of_iff' _ (Iff.of_eq (k0_chk69.eq_1 v492))
theorem k0_idx69_inb : ∀ (v492 : IVec S16 32) (k0_hw69 : k0_chk69 v492), ∀ a x, ((![v492] : Fin 1 → IVec S16 32) a x).toNat < S100000.size a := fun v492 k0_hw69 => k0_hw69
def k0_off81 (k0_t8 : Fin k0_t8_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v494 : BitVec 32 := Scalar.addi v461 c64_i32_293
  let v495 : Index := Scalar.indexCast v494
  ![v495.toNat]

def k0_chk70 (v499 : IVec S16 32) : Prop :=
  (∀ a x, ((![v499] : Fin 1 → IVec S16 32) a x).toNat < S100000.size a)
instance k0_chk70.dec : ∀ (v499 : IVec S16 32), Decidable (k0_chk70 v499) := fun v499 => decidable_of_iff' _ (Iff.of_eq (k0_chk70.eq_1 v499))
theorem k0_idx70_inb : ∀ (v499 : IVec S16 32) (k0_hw70 : k0_chk70 v499), ∀ a x, ((![v499] : Fin 1 → IVec S16 32) a x).toNat < S100000.size a := fun v499 k0_hw70 => k0_hw70
def k0_off82 (k0_t8 : Fin k0_t8_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v501 : BitVec 32 := Scalar.addi v461 c80_i32_294
  let v502 : Index := Scalar.indexCast v501
  ![v502.toNat]

def k0_chk71 (v506 : IVec S16 32) : Prop :=
  (∀ a x, ((![v506] : Fin 1 → IVec S16 32) a x).toNat < S100000.size a)
instance k0_chk71.dec : ∀ (v506 : IVec S16 32), Decidable (k0_chk71 v506) := fun v506 => decidable_of_iff' _ (Iff.of_eq (k0_chk71.eq_1 v506))
theorem k0_idx71_inb : ∀ (v506 : IVec S16 32) (k0_hw71 : k0_chk71 v506), ∀ a x, ((![v506] : Fin 1 → IVec S16 32) a x).toNat < S100000.size a := fun v506 k0_hw71 => k0_hw71
def k0_off83 (k0_t8 : Fin k0_t8_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v508 : BitVec 32 := Scalar.addi v461 c96_i32_295
  let v509 : Index := Scalar.indexCast v508
  ![v509.toNat]

def k0_chk72 (v513 : IVec S16 32) : Prop :=
  (∀ a x, ((![v513] : Fin 1 → IVec S16 32) a x).toNat < S100000.size a)
instance k0_chk72.dec : ∀ (v513 : IVec S16 32), Decidable (k0_chk72 v513) := fun v513 => decidable_of_iff' _ (Iff.of_eq (k0_chk72.eq_1 v513))
theorem k0_idx72_inb : ∀ (v513 : IVec S16 32) (k0_hw72 : k0_chk72 v513), ∀ a x, ((![v513] : Fin 1 → IVec S16 32) a x).toNat < S100000.size a := fun v513 k0_hw72 => k0_hw72
def k0_off84 (k0_t8 : Fin k0_t8_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v515 : BitVec 32 := Scalar.addi v461 c112_i32_296
  let v516 : Index := Scalar.indexCast v515
  ![v516.toNat]

def k0_chk73 (v520 : IVec S16 32) : Prop :=
  (∀ a x, ((![v520] : Fin 1 → IVec S16 32) a x).toNat < S100000.size a)
instance k0_chk73.dec : ∀ (v520 : IVec S16 32), Decidable (k0_chk73 v520) := fun v520 => decidable_of_iff' _ (Iff.of_eq (k0_chk73.eq_1 v520))
theorem k0_idx73_inb : ∀ (v520 : IVec S16 32) (k0_hw73 : k0_chk73 v520), ∀ a x, ((![v520] : Fin 1 → IVec S16 32) a x).toNat < S100000.size a := fun v520 k0_hw73 => k0_hw73
def k0_off85 (k0_t8 : Fin k0_t8_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v522 : BitVec 32 := Scalar.addi v461 c128_i32_297
  let v523 : Index := Scalar.indexCast v522
  ![v523.toNat]

def k0_chk74 (v527 : IVec S16 32) : Prop :=
  (∀ a x, ((![v527] : Fin 1 → IVec S16 32) a x).toNat < S100000.size a)
instance k0_chk74.dec : ∀ (v527 : IVec S16 32), Decidable (k0_chk74 v527) := fun v527 => decidable_of_iff' _ (Iff.of_eq (k0_chk74.eq_1 v527))
theorem k0_idx74_inb : ∀ (v527 : IVec S16 32) (k0_hw74 : k0_chk74 v527), ∀ a x, ((![v527] : Fin 1 → IVec S16 32) a x).toNat < S100000.size a := fun v527 k0_hw74 => k0_hw74
def k0_off86 (k0_t8 : Fin k0_t8_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v529 : BitVec 32 := Scalar.addi v461 c144_i32_299
  let v530 : Index := Scalar.indexCast v529
  ![v530.toNat]

def k0_chk75 (v534 : IVec S16 32) : Prop :=
  (∀ a x, ((![v534] : Fin 1 → IVec S16 32) a x).toNat < S100000.size a)
instance k0_chk75.dec : ∀ (v534 : IVec S16 32), Decidable (k0_chk75 v534) := fun v534 => decidable_of_iff' _ (Iff.of_eq (k0_chk75.eq_1 v534))
theorem k0_idx75_inb : ∀ (v534 : IVec S16 32) (k0_hw75 : k0_chk75 v534), ∀ a x, ((![v534] : Fin 1 → IVec S16 32) a x).toNat < S100000.size a := fun v534 k0_hw75 => k0_hw75
def k0_off87 (k0_t8 : Fin k0_t8_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v536 : BitVec 32 := Scalar.addi v461 c160_i32_300
  let v537 : Index := Scalar.indexCast v536
  ![v537.toNat]

def k0_chk76 (v541 : IVec S16 32) : Prop :=
  (∀ a x, ((![v541] : Fin 1 → IVec S16 32) a x).toNat < S100000.size a)
instance k0_chk76.dec : ∀ (v541 : IVec S16 32), Decidable (k0_chk76 v541) := fun v541 => decidable_of_iff' _ (Iff.of_eq (k0_chk76.eq_1 v541))
theorem k0_idx76_inb : ∀ (v541 : IVec S16 32) (k0_hw76 : k0_chk76 v541), ∀ a x, ((![v541] : Fin 1 → IVec S16 32) a x).toNat < S100000.size a := fun v541 k0_hw76 => k0_hw76
def k0_off88 (k0_t8 : Fin k0_t8_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v543 : BitVec 32 := Scalar.addi v461 c176_i32_301
  let v544 : Index := Scalar.indexCast v543
  ![v544.toNat]

def k0_chk77 (v548 : IVec S16 32) : Prop :=
  (∀ a x, ((![v548] : Fin 1 → IVec S16 32) a x).toNat < S100000.size a)
instance k0_chk77.dec : ∀ (v548 : IVec S16 32), Decidable (k0_chk77 v548) := fun v548 => decidable_of_iff' _ (Iff.of_eq (k0_chk77.eq_1 v548))
theorem k0_idx77_inb : ∀ (v548 : IVec S16 32) (k0_hw77 : k0_chk77 v548), ∀ a x, ((![v548] : Fin 1 → IVec S16 32) a x).toNat < S100000.size a := fun v548 k0_hw77 => k0_hw77
def k0_off89 (k0_t8 : Fin k0_t8_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v550 : BitVec 32 := Scalar.addi v461 c192_i32_302
  let v551 : Index := Scalar.indexCast v550
  ![v551.toNat]

def k0_chk78 (v555 : IVec S16 32) : Prop :=
  (∀ a x, ((![v555] : Fin 1 → IVec S16 32) a x).toNat < S100000.size a)
instance k0_chk78.dec : ∀ (v555 : IVec S16 32), Decidable (k0_chk78 v555) := fun v555 => decidable_of_iff' _ (Iff.of_eq (k0_chk78.eq_1 v555))
theorem k0_idx78_inb : ∀ (v555 : IVec S16 32) (k0_hw78 : k0_chk78 v555), ∀ a x, ((![v555] : Fin 1 → IVec S16 32) a x).toNat < S100000.size a := fun v555 k0_hw78 => k0_hw78
def k0_off90 (k0_t8 : Fin k0_t8_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v557 : BitVec 32 := Scalar.addi v461 c208_i32_303
  let v558 : Index := Scalar.indexCast v557
  ![v558.toNat]

def k0_chk79 (v562 : IVec S16 32) : Prop :=
  (∀ a x, ((![v562] : Fin 1 → IVec S16 32) a x).toNat < S100000.size a)
instance k0_chk79.dec : ∀ (v562 : IVec S16 32), Decidable (k0_chk79 v562) := fun v562 => decidable_of_iff' _ (Iff.of_eq (k0_chk79.eq_1 v562))
theorem k0_idx79_inb : ∀ (v562 : IVec S16 32) (k0_hw79 : k0_chk79 v562), ∀ a x, ((![v562] : Fin 1 → IVec S16 32) a x).toNat < S100000.size a := fun v562 k0_hw79 => k0_hw79
def k0_off91 (k0_t8 : Fin k0_t8_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let v564 : BitVec 32 := Scalar.addi v461 c224_i32_304
  let v565 : Index := Scalar.indexCast v564
  ![v565.toNat]

def k0_chk80 (v569 : IVec S16 32) : Prop :=
  (∀ a x, ((![v569] : Fin 1 → IVec S16 32) a x).toNat < S100000.size a)
instance k0_chk80.dec : ∀ (v569 : IVec S16 32), Decidable (k0_chk80 v569) := fun v569 => decidable_of_iff' _ (Iff.of_eq (k0_chk80.eq_1 v569))
theorem k0_idx80_inb : ∀ (v569 : IVec S16 32) (k0_hw80 : k0_chk80 v569), ∀ a x, ((![v569] : Fin 1 → IVec S16 32) a x).toNat < S100000.size a := fun v569 k0_hw80 => k0_hw80
def k0_off92 (k0_t8 : Fin k0_t8_loop.trips) : Fin 1 → Nat :=
  let c0_i32_275 : BitVec 32 := 0#32
  let c1_i32_277 : BitVec 32 := 1#32
  let arg36 : BitVec 32 := Scf.iv c0_i32_275 c1_i32_277 k0_t8
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off93 (i : grid0.Coords) (k0_t7 : Fin (k0_t7_loop i).trips) : Fin 2 → Nat :=
  let c36_i32_279 : BitVec 32 := 36#32
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c1_i32_32 : BitVec 32 := 1#32
  let arg34 : BitVec 32 := Scf.iv v57 c1_i32_32 k0_t7
  let v457 : BitVec 32 := Scalar.addi c36_i32_279 arg34
  let c0_i32_287_r11 : BitVec 32 := 0#32
  ![v457.toNat, 0]
@[reducible] def k0_t9_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off94 (k0_t9 : Fin k0_t9_loop.trips) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk81 (v464 : IVec S16 32) : Prop :=
  (∀ a x, ((![v464] : Fin 1 → IVec S16 32) a x).toNat < S100000.size a)
instance k0_chk81.dec : ∀ (v464 : IVec S16 32), Decidable (k0_chk81 v464) := fun v464 => decidable_of_iff' _ (Iff.of_eq (k0_chk81.eq_1 v464))
theorem k0_idx81_inb : ∀ (v464 : IVec S16 32) (k0_hw81 : k0_chk81 v464), ∀ a x, ((![v464] : Fin 1 → IVec S16 32) a x).toNat < S100000.size a := fun v464 k0_hw81 => k0_hw81
def k0_off95 (k0_t9 : Fin k0_t9_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v466 : BitVec 32 := Scalar.addi v461 c0_i32_288
  let v467 : Index := Scalar.indexCast v466
  ![v467.toNat]

def k0_chk82 (v471 : IVec S16 32) : Prop :=
  (∀ a x, ((![v471] : Fin 1 → IVec S16 32) a x).toNat < S100000.size a)
instance k0_chk82.dec : ∀ (v471 : IVec S16 32), Decidable (k0_chk82 v471) := fun v471 => decidable_of_iff' _ (Iff.of_eq (k0_chk82.eq_1 v471))
theorem k0_idx82_inb : ∀ (v471 : IVec S16 32) (k0_hw82 : k0_chk82 v471), ∀ a x, ((![v471] : Fin 1 → IVec S16 32) a x).toNat < S100000.size a := fun v471 k0_hw82 => k0_hw82
def k0_off96 (k0_t9 : Fin k0_t9_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v473 : BitVec 32 := Scalar.addi v461 c16_i32_289
  let v474 : Index := Scalar.indexCast v473
  ![v474.toNat]

def k0_chk83 (v478 : IVec S16 32) : Prop :=
  (∀ a x, ((![v478] : Fin 1 → IVec S16 32) a x).toNat < S100000.size a)
instance k0_chk83.dec : ∀ (v478 : IVec S16 32), Decidable (k0_chk83 v478) := fun v478 => decidable_of_iff' _ (Iff.of_eq (k0_chk83.eq_1 v478))
theorem k0_idx83_inb : ∀ (v478 : IVec S16 32) (k0_hw83 : k0_chk83 v478), ∀ a x, ((![v478] : Fin 1 → IVec S16 32) a x).toNat < S100000.size a := fun v478 k0_hw83 => k0_hw83
def k0_off97 (k0_t9 : Fin k0_t9_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v480 : BitVec 32 := Scalar.addi v461 c32_i32_291
  let v481 : Index := Scalar.indexCast v480
  ![v481.toNat]

def k0_chk84 (v485 : IVec S16 32) : Prop :=
  (∀ a x, ((![v485] : Fin 1 → IVec S16 32) a x).toNat < S100000.size a)
instance k0_chk84.dec : ∀ (v485 : IVec S16 32), Decidable (k0_chk84 v485) := fun v485 => decidable_of_iff' _ (Iff.of_eq (k0_chk84.eq_1 v485))
theorem k0_idx84_inb : ∀ (v485 : IVec S16 32) (k0_hw84 : k0_chk84 v485), ∀ a x, ((![v485] : Fin 1 → IVec S16 32) a x).toNat < S100000.size a := fun v485 k0_hw84 => k0_hw84
def k0_off98 (k0_t9 : Fin k0_t9_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v487 : BitVec 32 := Scalar.addi v461 c48_i32_292
  let v488 : Index := Scalar.indexCast v487
  ![v488.toNat]

def k0_chk85 (v492 : IVec S16 32) : Prop :=
  (∀ a x, ((![v492] : Fin 1 → IVec S16 32) a x).toNat < S100000.size a)
instance k0_chk85.dec : ∀ (v492 : IVec S16 32), Decidable (k0_chk85 v492) := fun v492 => decidable_of_iff' _ (Iff.of_eq (k0_chk85.eq_1 v492))
theorem k0_idx85_inb : ∀ (v492 : IVec S16 32) (k0_hw85 : k0_chk85 v492), ∀ a x, ((![v492] : Fin 1 → IVec S16 32) a x).toNat < S100000.size a := fun v492 k0_hw85 => k0_hw85
def k0_off99 (k0_t9 : Fin k0_t9_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v494 : BitVec 32 := Scalar.addi v461 c64_i32_293
  let v495 : Index := Scalar.indexCast v494
  ![v495.toNat]

def k0_chk86 (v499 : IVec S16 32) : Prop :=
  (∀ a x, ((![v499] : Fin 1 → IVec S16 32) a x).toNat < S100000.size a)
instance k0_chk86.dec : ∀ (v499 : IVec S16 32), Decidable (k0_chk86 v499) := fun v499 => decidable_of_iff' _ (Iff.of_eq (k0_chk86.eq_1 v499))
theorem k0_idx86_inb : ∀ (v499 : IVec S16 32) (k0_hw86 : k0_chk86 v499), ∀ a x, ((![v499] : Fin 1 → IVec S16 32) a x).toNat < S100000.size a := fun v499 k0_hw86 => k0_hw86
def k0_off100 (k0_t9 : Fin k0_t9_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v501 : BitVec 32 := Scalar.addi v461 c80_i32_294
  let v502 : Index := Scalar.indexCast v501
  ![v502.toNat]

def k0_chk87 (v506 : IVec S16 32) : Prop :=
  (∀ a x, ((![v506] : Fin 1 → IVec S16 32) a x).toNat < S100000.size a)
instance k0_chk87.dec : ∀ (v506 : IVec S16 32), Decidable (k0_chk87 v506) := fun v506 => decidable_of_iff' _ (Iff.of_eq (k0_chk87.eq_1 v506))
theorem k0_idx87_inb : ∀ (v506 : IVec S16 32) (k0_hw87 : k0_chk87 v506), ∀ a x, ((![v506] : Fin 1 → IVec S16 32) a x).toNat < S100000.size a := fun v506 k0_hw87 => k0_hw87
def k0_off101 (k0_t9 : Fin k0_t9_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v508 : BitVec 32 := Scalar.addi v461 c96_i32_295
  let v509 : Index := Scalar.indexCast v508
  ![v509.toNat]

def k0_chk88 (v513 : IVec S16 32) : Prop :=
  (∀ a x, ((![v513] : Fin 1 → IVec S16 32) a x).toNat < S100000.size a)
instance k0_chk88.dec : ∀ (v513 : IVec S16 32), Decidable (k0_chk88 v513) := fun v513 => decidable_of_iff' _ (Iff.of_eq (k0_chk88.eq_1 v513))
theorem k0_idx88_inb : ∀ (v513 : IVec S16 32) (k0_hw88 : k0_chk88 v513), ∀ a x, ((![v513] : Fin 1 → IVec S16 32) a x).toNat < S100000.size a := fun v513 k0_hw88 => k0_hw88
def k0_off102 (k0_t9 : Fin k0_t9_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v515 : BitVec 32 := Scalar.addi v461 c112_i32_296
  let v516 : Index := Scalar.indexCast v515
  ![v516.toNat]

def k0_chk89 (v520 : IVec S16 32) : Prop :=
  (∀ a x, ((![v520] : Fin 1 → IVec S16 32) a x).toNat < S100000.size a)
instance k0_chk89.dec : ∀ (v520 : IVec S16 32), Decidable (k0_chk89 v520) := fun v520 => decidable_of_iff' _ (Iff.of_eq (k0_chk89.eq_1 v520))
theorem k0_idx89_inb : ∀ (v520 : IVec S16 32) (k0_hw89 : k0_chk89 v520), ∀ a x, ((![v520] : Fin 1 → IVec S16 32) a x).toNat < S100000.size a := fun v520 k0_hw89 => k0_hw89
def k0_off103 (k0_t9 : Fin k0_t9_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v522 : BitVec 32 := Scalar.addi v461 c128_i32_297
  let v523 : Index := Scalar.indexCast v522
  ![v523.toNat]

def k0_chk90 (v527 : IVec S16 32) : Prop :=
  (∀ a x, ((![v527] : Fin 1 → IVec S16 32) a x).toNat < S100000.size a)
instance k0_chk90.dec : ∀ (v527 : IVec S16 32), Decidable (k0_chk90 v527) := fun v527 => decidable_of_iff' _ (Iff.of_eq (k0_chk90.eq_1 v527))
theorem k0_idx90_inb : ∀ (v527 : IVec S16 32) (k0_hw90 : k0_chk90 v527), ∀ a x, ((![v527] : Fin 1 → IVec S16 32) a x).toNat < S100000.size a := fun v527 k0_hw90 => k0_hw90
def k0_off104 (k0_t9 : Fin k0_t9_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v529 : BitVec 32 := Scalar.addi v461 c144_i32_299
  let v530 : Index := Scalar.indexCast v529
  ![v530.toNat]

def k0_chk91 (v534 : IVec S16 32) : Prop :=
  (∀ a x, ((![v534] : Fin 1 → IVec S16 32) a x).toNat < S100000.size a)
instance k0_chk91.dec : ∀ (v534 : IVec S16 32), Decidable (k0_chk91 v534) := fun v534 => decidable_of_iff' _ (Iff.of_eq (k0_chk91.eq_1 v534))
theorem k0_idx91_inb : ∀ (v534 : IVec S16 32) (k0_hw91 : k0_chk91 v534), ∀ a x, ((![v534] : Fin 1 → IVec S16 32) a x).toNat < S100000.size a := fun v534 k0_hw91 => k0_hw91
def k0_off105 (k0_t9 : Fin k0_t9_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v536 : BitVec 32 := Scalar.addi v461 c160_i32_300
  let v537 : Index := Scalar.indexCast v536
  ![v537.toNat]

def k0_chk92 (v541 : IVec S16 32) : Prop :=
  (∀ a x, ((![v541] : Fin 1 → IVec S16 32) a x).toNat < S100000.size a)
instance k0_chk92.dec : ∀ (v541 : IVec S16 32), Decidable (k0_chk92 v541) := fun v541 => decidable_of_iff' _ (Iff.of_eq (k0_chk92.eq_1 v541))
theorem k0_idx92_inb : ∀ (v541 : IVec S16 32) (k0_hw92 : k0_chk92 v541), ∀ a x, ((![v541] : Fin 1 → IVec S16 32) a x).toNat < S100000.size a := fun v541 k0_hw92 => k0_hw92
def k0_off106 (k0_t9 : Fin k0_t9_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v543 : BitVec 32 := Scalar.addi v461 c176_i32_301
  let v544 : Index := Scalar.indexCast v543
  ![v544.toNat]

def k0_chk93 (v548 : IVec S16 32) : Prop :=
  (∀ a x, ((![v548] : Fin 1 → IVec S16 32) a x).toNat < S100000.size a)
instance k0_chk93.dec : ∀ (v548 : IVec S16 32), Decidable (k0_chk93 v548) := fun v548 => decidable_of_iff' _ (Iff.of_eq (k0_chk93.eq_1 v548))
theorem k0_idx93_inb : ∀ (v548 : IVec S16 32) (k0_hw93 : k0_chk93 v548), ∀ a x, ((![v548] : Fin 1 → IVec S16 32) a x).toNat < S100000.size a := fun v548 k0_hw93 => k0_hw93
def k0_off107 (k0_t9 : Fin k0_t9_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v550 : BitVec 32 := Scalar.addi v461 c192_i32_302
  let v551 : Index := Scalar.indexCast v550
  ![v551.toNat]

def k0_chk94 (v555 : IVec S16 32) : Prop :=
  (∀ a x, ((![v555] : Fin 1 → IVec S16 32) a x).toNat < S100000.size a)
instance k0_chk94.dec : ∀ (v555 : IVec S16 32), Decidable (k0_chk94 v555) := fun v555 => decidable_of_iff' _ (Iff.of_eq (k0_chk94.eq_1 v555))
theorem k0_idx94_inb : ∀ (v555 : IVec S16 32) (k0_hw94 : k0_chk94 v555), ∀ a x, ((![v555] : Fin 1 → IVec S16 32) a x).toNat < S100000.size a := fun v555 k0_hw94 => k0_hw94
def k0_off108 (k0_t9 : Fin k0_t9_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v557 : BitVec 32 := Scalar.addi v461 c208_i32_303
  let v558 : Index := Scalar.indexCast v557
  ![v558.toNat]

def k0_chk95 (v562 : IVec S16 32) : Prop :=
  (∀ a x, ((![v562] : Fin 1 → IVec S16 32) a x).toNat < S100000.size a)
instance k0_chk95.dec : ∀ (v562 : IVec S16 32), Decidable (k0_chk95 v562) := fun v562 => decidable_of_iff' _ (Iff.of_eq (k0_chk95.eq_1 v562))
theorem k0_idx95_inb : ∀ (v562 : IVec S16 32) (k0_hw95 : k0_chk95 v562), ∀ a x, ((![v562] : Fin 1 → IVec S16 32) a x).toNat < S100000.size a := fun v562 k0_hw95 => k0_hw95
def k0_off109 (k0_t9 : Fin k0_t9_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let v564 : BitVec 32 := Scalar.addi v461 c224_i32_304
  let v565 : Index := Scalar.indexCast v564
  ![v565.toNat]

def k0_chk96 (v569 : IVec S16 32) : Prop :=
  (∀ a x, ((![v569] : Fin 1 → IVec S16 32) a x).toNat < S100000.size a)
instance k0_chk96.dec : ∀ (v569 : IVec S16 32), Decidable (k0_chk96 v569) := fun v569 => decidable_of_iff' _ (Iff.of_eq (k0_chk96.eq_1 v569))
theorem k0_idx96_inb : ∀ (v569 : IVec S16 32) (k0_hw96 : k0_chk96 v569), ∀ a x, ((![v569] : Fin 1 → IVec S16 32) a x).toNat < S100000.size a := fun v569 k0_hw96 => k0_hw96
def k0_off110 (k0_t9 : Fin k0_t9_loop.trips) : Fin 1 → Nat :=
  let c0_i32_281 : BitVec 32 := 0#32
  let c1_i32_283 : BitVec 32 := 1#32
  let arg36 : BitVec 32 := Scf.iv c0_i32_281 c1_i32_283 k0_t9
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off111 (i : grid0.Coords) (k0_t7 : Fin (k0_t7_loop i).trips) : Fin 2 → Nat :=
  let c36_i32_285 : BitVec 32 := 36#32
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c1_i32_32 : BitVec 32 := 1#32
  let arg34 : BitVec 32 := Scf.iv v57 c1_i32_32 k0_t7
  let v460 : BitVec 32 := Scalar.addi c36_i32_285 arg34
  let c8192_i32_r12 : BitVec 32 := 8192#32
  ![v460.toNat, 8192]
@[reducible] def k0_t10_loop (i : grid0.Coords) : Scf.Loop 32 :=
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c36_i32_28 : BitVec 32 := 36#32
  let c0_i32_27 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c36_i32_26 : BitVec 32 := 36#32
  let v58 : BitVec 32 := Scalar.subi v38 c36_i32_26
  let v59 : BitVec 32 := Scalar.maxsi c0_i32_27 v58
  let v60 : BitVec 32 := Scalar.minsi c36_i32_28 v59
  let v64 : BitVec 32 := Scalar.subi v60 v57
  let c1_i32_31 : BitVec 32 := 1#32
  let v66 : BitVec 32 := Scalar.divsi v64 c1_i32_31
  let v67 : BitVec 32 := Scalar.muli v66 c1_i32_31
  let v68 : BitVec 32 := Scalar.addi v57 v67
  let v65 : BitVec 32 := Scalar.addi v57 v64
  let c1_i32_33 : BitVec 32 := 1#32
  ⟨v68, v65, c1_i32_33⟩
def k0_off112 (i : grid0.Coords) (k0_t10 : Fin (k0_t10_loop i).trips) : Fin 2 → Nat :=
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c36_i32_28 : BitVec 32 := 36#32
  let c0_i32_27 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c36_i32_26 : BitVec 32 := 36#32
  let v58 : BitVec 32 := Scalar.subi v38 c36_i32_26
  let v59 : BitVec 32 := Scalar.maxsi c0_i32_27 v58
  let v60 : BitVec 32 := Scalar.minsi c36_i32_28 v59
  let v64 : BitVec 32 := Scalar.subi v60 v57
  let c1_i32_31 : BitVec 32 := 1#32
  let v66 : BitVec 32 := Scalar.divsi v64 c1_i32_31
  let v67 : BitVec 32 := Scalar.muli v66 c1_i32_31
  let v68 : BitVec 32 := Scalar.addi v57 v67
  let c1_i32_33 : BitVec 32 := 1#32
  let arg34 : BitVec 32 := Scf.iv v68 c1_i32_33 k0_t10
  let c0_i32_287_r13 : BitVec 32 := 0#32
  ![arg34.toNat, 0]
@[reducible] def k0_t11_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off113 (k0_t11 : Fin k0_t11_loop.trips) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk97 (v464 : IVec S16 32) : Prop :=
  (∀ a x, ((![v464] : Fin 1 → IVec S16 32) a x).toNat < S100000.size a)
instance k0_chk97.dec : ∀ (v464 : IVec S16 32), Decidable (k0_chk97 v464) := fun v464 => decidable_of_iff' _ (Iff.of_eq (k0_chk97.eq_1 v464))
theorem k0_idx97_inb : ∀ (v464 : IVec S16 32) (k0_hw97 : k0_chk97 v464), ∀ a x, ((![v464] : Fin 1 → IVec S16 32) a x).toNat < S100000.size a := fun v464 k0_hw97 => k0_hw97
def k0_off114 (k0_t11 : Fin k0_t11_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v466 : BitVec 32 := Scalar.addi v461 c0_i32_288
  let v467 : Index := Scalar.indexCast v466
  ![v467.toNat]

def k0_chk98 (v471 : IVec S16 32) : Prop :=
  (∀ a x, ((![v471] : Fin 1 → IVec S16 32) a x).toNat < S100000.size a)
instance k0_chk98.dec : ∀ (v471 : IVec S16 32), Decidable (k0_chk98 v471) := fun v471 => decidable_of_iff' _ (Iff.of_eq (k0_chk98.eq_1 v471))
theorem k0_idx98_inb : ∀ (v471 : IVec S16 32) (k0_hw98 : k0_chk98 v471), ∀ a x, ((![v471] : Fin 1 → IVec S16 32) a x).toNat < S100000.size a := fun v471 k0_hw98 => k0_hw98
def k0_off115 (k0_t11 : Fin k0_t11_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v473 : BitVec 32 := Scalar.addi v461 c16_i32_289
  let v474 : Index := Scalar.indexCast v473
  ![v474.toNat]

def k0_chk99 (v478 : IVec S16 32) : Prop :=
  (∀ a x, ((![v478] : Fin 1 → IVec S16 32) a x).toNat < S100000.size a)
instance k0_chk99.dec : ∀ (v478 : IVec S16 32), Decidable (k0_chk99 v478) := fun v478 => decidable_of_iff' _ (Iff.of_eq (k0_chk99.eq_1 v478))
theorem k0_idx99_inb : ∀ (v478 : IVec S16 32) (k0_hw99 : k0_chk99 v478), ∀ a x, ((![v478] : Fin 1 → IVec S16 32) a x).toNat < S100000.size a := fun v478 k0_hw99 => k0_hw99
def k0_off116 (k0_t11 : Fin k0_t11_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v480 : BitVec 32 := Scalar.addi v461 c32_i32_291
  let v481 : Index := Scalar.indexCast v480
  ![v481.toNat]

def k0_chk100 (v485 : IVec S16 32) : Prop :=
  (∀ a x, ((![v485] : Fin 1 → IVec S16 32) a x).toNat < S100000.size a)
instance k0_chk100.dec : ∀ (v485 : IVec S16 32), Decidable (k0_chk100 v485) := fun v485 => decidable_of_iff' _ (Iff.of_eq (k0_chk100.eq_1 v485))
theorem k0_idx100_inb : ∀ (v485 : IVec S16 32) (k0_hw100 : k0_chk100 v485), ∀ a x, ((![v485] : Fin 1 → IVec S16 32) a x).toNat < S100000.size a := fun v485 k0_hw100 => k0_hw100
def k0_off117 (k0_t11 : Fin k0_t11_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v487 : BitVec 32 := Scalar.addi v461 c48_i32_292
  let v488 : Index := Scalar.indexCast v487
  ![v488.toNat]

def k0_chk101 (v492 : IVec S16 32) : Prop :=
  (∀ a x, ((![v492] : Fin 1 → IVec S16 32) a x).toNat < S100000.size a)
instance k0_chk101.dec : ∀ (v492 : IVec S16 32), Decidable (k0_chk101 v492) := fun v492 => decidable_of_iff' _ (Iff.of_eq (k0_chk101.eq_1 v492))
theorem k0_idx101_inb : ∀ (v492 : IVec S16 32) (k0_hw101 : k0_chk101 v492), ∀ a x, ((![v492] : Fin 1 → IVec S16 32) a x).toNat < S100000.size a := fun v492 k0_hw101 => k0_hw101
def k0_off118 (k0_t11 : Fin k0_t11_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v494 : BitVec 32 := Scalar.addi v461 c64_i32_293
  let v495 : Index := Scalar.indexCast v494
  ![v495.toNat]

def k0_chk102 (v499 : IVec S16 32) : Prop :=
  (∀ a x, ((![v499] : Fin 1 → IVec S16 32) a x).toNat < S100000.size a)
instance k0_chk102.dec : ∀ (v499 : IVec S16 32), Decidable (k0_chk102 v499) := fun v499 => decidable_of_iff' _ (Iff.of_eq (k0_chk102.eq_1 v499))
theorem k0_idx102_inb : ∀ (v499 : IVec S16 32) (k0_hw102 : k0_chk102 v499), ∀ a x, ((![v499] : Fin 1 → IVec S16 32) a x).toNat < S100000.size a := fun v499 k0_hw102 => k0_hw102
def k0_off119 (k0_t11 : Fin k0_t11_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v501 : BitVec 32 := Scalar.addi v461 c80_i32_294
  let v502 : Index := Scalar.indexCast v501
  ![v502.toNat]

def k0_chk103 (v506 : IVec S16 32) : Prop :=
  (∀ a x, ((![v506] : Fin 1 → IVec S16 32) a x).toNat < S100000.size a)
instance k0_chk103.dec : ∀ (v506 : IVec S16 32), Decidable (k0_chk103 v506) := fun v506 => decidable_of_iff' _ (Iff.of_eq (k0_chk103.eq_1 v506))
theorem k0_idx103_inb : ∀ (v506 : IVec S16 32) (k0_hw103 : k0_chk103 v506), ∀ a x, ((![v506] : Fin 1 → IVec S16 32) a x).toNat < S100000.size a := fun v506 k0_hw103 => k0_hw103
def k0_off120 (k0_t11 : Fin k0_t11_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v508 : BitVec 32 := Scalar.addi v461 c96_i32_295
  let v509 : Index := Scalar.indexCast v508
  ![v509.toNat]

def k0_chk104 (v513 : IVec S16 32) : Prop :=
  (∀ a x, ((![v513] : Fin 1 → IVec S16 32) a x).toNat < S100000.size a)
instance k0_chk104.dec : ∀ (v513 : IVec S16 32), Decidable (k0_chk104 v513) := fun v513 => decidable_of_iff' _ (Iff.of_eq (k0_chk104.eq_1 v513))
theorem k0_idx104_inb : ∀ (v513 : IVec S16 32) (k0_hw104 : k0_chk104 v513), ∀ a x, ((![v513] : Fin 1 → IVec S16 32) a x).toNat < S100000.size a := fun v513 k0_hw104 => k0_hw104
def k0_off121 (k0_t11 : Fin k0_t11_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v515 : BitVec 32 := Scalar.addi v461 c112_i32_296
  let v516 : Index := Scalar.indexCast v515
  ![v516.toNat]

def k0_chk105 (v520 : IVec S16 32) : Prop :=
  (∀ a x, ((![v520] : Fin 1 → IVec S16 32) a x).toNat < S100000.size a)
instance k0_chk105.dec : ∀ (v520 : IVec S16 32), Decidable (k0_chk105 v520) := fun v520 => decidable_of_iff' _ (Iff.of_eq (k0_chk105.eq_1 v520))
theorem k0_idx105_inb : ∀ (v520 : IVec S16 32) (k0_hw105 : k0_chk105 v520), ∀ a x, ((![v520] : Fin 1 → IVec S16 32) a x).toNat < S100000.size a := fun v520 k0_hw105 => k0_hw105
def k0_off122 (k0_t11 : Fin k0_t11_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v522 : BitVec 32 := Scalar.addi v461 c128_i32_297
  let v523 : Index := Scalar.indexCast v522
  ![v523.toNat]

def k0_chk106 (v527 : IVec S16 32) : Prop :=
  (∀ a x, ((![v527] : Fin 1 → IVec S16 32) a x).toNat < S100000.size a)
instance k0_chk106.dec : ∀ (v527 : IVec S16 32), Decidable (k0_chk106 v527) := fun v527 => decidable_of_iff' _ (Iff.of_eq (k0_chk106.eq_1 v527))
theorem k0_idx106_inb : ∀ (v527 : IVec S16 32) (k0_hw106 : k0_chk106 v527), ∀ a x, ((![v527] : Fin 1 → IVec S16 32) a x).toNat < S100000.size a := fun v527 k0_hw106 => k0_hw106
def k0_off123 (k0_t11 : Fin k0_t11_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v529 : BitVec 32 := Scalar.addi v461 c144_i32_299
  let v530 : Index := Scalar.indexCast v529
  ![v530.toNat]

def k0_chk107 (v534 : IVec S16 32) : Prop :=
  (∀ a x, ((![v534] : Fin 1 → IVec S16 32) a x).toNat < S100000.size a)
instance k0_chk107.dec : ∀ (v534 : IVec S16 32), Decidable (k0_chk107 v534) := fun v534 => decidable_of_iff' _ (Iff.of_eq (k0_chk107.eq_1 v534))
theorem k0_idx107_inb : ∀ (v534 : IVec S16 32) (k0_hw107 : k0_chk107 v534), ∀ a x, ((![v534] : Fin 1 → IVec S16 32) a x).toNat < S100000.size a := fun v534 k0_hw107 => k0_hw107
def k0_off124 (k0_t11 : Fin k0_t11_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v536 : BitVec 32 := Scalar.addi v461 c160_i32_300
  let v537 : Index := Scalar.indexCast v536
  ![v537.toNat]

def k0_chk108 (v541 : IVec S16 32) : Prop :=
  (∀ a x, ((![v541] : Fin 1 → IVec S16 32) a x).toNat < S100000.size a)
instance k0_chk108.dec : ∀ (v541 : IVec S16 32), Decidable (k0_chk108 v541) := fun v541 => decidable_of_iff' _ (Iff.of_eq (k0_chk108.eq_1 v541))
theorem k0_idx108_inb : ∀ (v541 : IVec S16 32) (k0_hw108 : k0_chk108 v541), ∀ a x, ((![v541] : Fin 1 → IVec S16 32) a x).toNat < S100000.size a := fun v541 k0_hw108 => k0_hw108
def k0_off125 (k0_t11 : Fin k0_t11_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v543 : BitVec 32 := Scalar.addi v461 c176_i32_301
  let v544 : Index := Scalar.indexCast v543
  ![v544.toNat]

def k0_chk109 (v548 : IVec S16 32) : Prop :=
  (∀ a x, ((![v548] : Fin 1 → IVec S16 32) a x).toNat < S100000.size a)
instance k0_chk109.dec : ∀ (v548 : IVec S16 32), Decidable (k0_chk109 v548) := fun v548 => decidable_of_iff' _ (Iff.of_eq (k0_chk109.eq_1 v548))
theorem k0_idx109_inb : ∀ (v548 : IVec S16 32) (k0_hw109 : k0_chk109 v548), ∀ a x, ((![v548] : Fin 1 → IVec S16 32) a x).toNat < S100000.size a := fun v548 k0_hw109 => k0_hw109
def k0_off126 (k0_t11 : Fin k0_t11_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v550 : BitVec 32 := Scalar.addi v461 c192_i32_302
  let v551 : Index := Scalar.indexCast v550
  ![v551.toNat]

def k0_chk110 (v555 : IVec S16 32) : Prop :=
  (∀ a x, ((![v555] : Fin 1 → IVec S16 32) a x).toNat < S100000.size a)
instance k0_chk110.dec : ∀ (v555 : IVec S16 32), Decidable (k0_chk110 v555) := fun v555 => decidable_of_iff' _ (Iff.of_eq (k0_chk110.eq_1 v555))
theorem k0_idx110_inb : ∀ (v555 : IVec S16 32) (k0_hw110 : k0_chk110 v555), ∀ a x, ((![v555] : Fin 1 → IVec S16 32) a x).toNat < S100000.size a := fun v555 k0_hw110 => k0_hw110
def k0_off127 (k0_t11 : Fin k0_t11_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v557 : BitVec 32 := Scalar.addi v461 c208_i32_303
  let v558 : Index := Scalar.indexCast v557
  ![v558.toNat]

def k0_chk111 (v562 : IVec S16 32) : Prop :=
  (∀ a x, ((![v562] : Fin 1 → IVec S16 32) a x).toNat < S100000.size a)
instance k0_chk111.dec : ∀ (v562 : IVec S16 32), Decidable (k0_chk111 v562) := fun v562 => decidable_of_iff' _ (Iff.of_eq (k0_chk111.eq_1 v562))
theorem k0_idx111_inb : ∀ (v562 : IVec S16 32) (k0_hw111 : k0_chk111 v562), ∀ a x, ((![v562] : Fin 1 → IVec S16 32) a x).toNat < S100000.size a := fun v562 k0_hw111 => k0_hw111
def k0_off128 (k0_t11 : Fin k0_t11_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let v564 : BitVec 32 := Scalar.addi v461 c224_i32_304
  let v565 : Index := Scalar.indexCast v564
  ![v565.toNat]

def k0_chk112 (v569 : IVec S16 32) : Prop :=
  (∀ a x, ((![v569] : Fin 1 → IVec S16 32) a x).toNat < S100000.size a)
instance k0_chk112.dec : ∀ (v569 : IVec S16 32), Decidable (k0_chk112 v569) := fun v569 => decidable_of_iff' _ (Iff.of_eq (k0_chk112.eq_1 v569))
theorem k0_idx112_inb : ∀ (v569 : IVec S16 32) (k0_hw112 : k0_chk112 v569), ∀ a x, ((![v569] : Fin 1 → IVec S16 32) a x).toNat < S100000.size a := fun v569 k0_hw112 => k0_hw112
def k0_off129 (k0_t11 : Fin k0_t11_loop.trips) : Fin 1 → Nat :=
  let c0_i32_275 : BitVec 32 := 0#32
  let c1_i32_277 : BitVec 32 := 1#32
  let arg36 : BitVec 32 := Scf.iv c0_i32_275 c1_i32_277 k0_t11
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off130 (i : grid0.Coords) (k0_t10 : Fin (k0_t10_loop i).trips) : Fin 2 → Nat :=
  let c36_i32_279 : BitVec 32 := 36#32
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c36_i32_28 : BitVec 32 := 36#32
  let c0_i32_27 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c36_i32_26 : BitVec 32 := 36#32
  let v58 : BitVec 32 := Scalar.subi v38 c36_i32_26
  let v59 : BitVec 32 := Scalar.maxsi c0_i32_27 v58
  let v60 : BitVec 32 := Scalar.minsi c36_i32_28 v59
  let v64 : BitVec 32 := Scalar.subi v60 v57
  let c1_i32_31 : BitVec 32 := 1#32
  let v66 : BitVec 32 := Scalar.divsi v64 c1_i32_31
  let v67 : BitVec 32 := Scalar.muli v66 c1_i32_31
  let v68 : BitVec 32 := Scalar.addi v57 v67
  let c1_i32_33 : BitVec 32 := 1#32
  let arg34 : BitVec 32 := Scf.iv v68 c1_i32_33 k0_t10
  let v457 : BitVec 32 := Scalar.addi c36_i32_279 arg34
  let c0_i32_287_r14 : BitVec 32 := 0#32
  ![v457.toNat, 0]
@[reducible] def k0_t12_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off131 (k0_t12 : Fin k0_t12_loop.trips) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk113 (v464 : IVec S16 32) : Prop :=
  (∀ a x, ((![v464] : Fin 1 → IVec S16 32) a x).toNat < S100000.size a)
instance k0_chk113.dec : ∀ (v464 : IVec S16 32), Decidable (k0_chk113 v464) := fun v464 => decidable_of_iff' _ (Iff.of_eq (k0_chk113.eq_1 v464))
theorem k0_idx113_inb : ∀ (v464 : IVec S16 32) (k0_hw113 : k0_chk113 v464), ∀ a x, ((![v464] : Fin 1 → IVec S16 32) a x).toNat < S100000.size a := fun v464 k0_hw113 => k0_hw113
def k0_off132 (k0_t12 : Fin k0_t12_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v466 : BitVec 32 := Scalar.addi v461 c0_i32_288
  let v467 : Index := Scalar.indexCast v466
  ![v467.toNat]

def k0_chk114 (v471 : IVec S16 32) : Prop :=
  (∀ a x, ((![v471] : Fin 1 → IVec S16 32) a x).toNat < S100000.size a)
instance k0_chk114.dec : ∀ (v471 : IVec S16 32), Decidable (k0_chk114 v471) := fun v471 => decidable_of_iff' _ (Iff.of_eq (k0_chk114.eq_1 v471))
theorem k0_idx114_inb : ∀ (v471 : IVec S16 32) (k0_hw114 : k0_chk114 v471), ∀ a x, ((![v471] : Fin 1 → IVec S16 32) a x).toNat < S100000.size a := fun v471 k0_hw114 => k0_hw114
def k0_off133 (k0_t12 : Fin k0_t12_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v473 : BitVec 32 := Scalar.addi v461 c16_i32_289
  let v474 : Index := Scalar.indexCast v473
  ![v474.toNat]

def k0_chk115 (v478 : IVec S16 32) : Prop :=
  (∀ a x, ((![v478] : Fin 1 → IVec S16 32) a x).toNat < S100000.size a)
instance k0_chk115.dec : ∀ (v478 : IVec S16 32), Decidable (k0_chk115 v478) := fun v478 => decidable_of_iff' _ (Iff.of_eq (k0_chk115.eq_1 v478))
theorem k0_idx115_inb : ∀ (v478 : IVec S16 32) (k0_hw115 : k0_chk115 v478), ∀ a x, ((![v478] : Fin 1 → IVec S16 32) a x).toNat < S100000.size a := fun v478 k0_hw115 => k0_hw115
def k0_off134 (k0_t12 : Fin k0_t12_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v480 : BitVec 32 := Scalar.addi v461 c32_i32_291
  let v481 : Index := Scalar.indexCast v480
  ![v481.toNat]

def k0_chk116 (v485 : IVec S16 32) : Prop :=
  (∀ a x, ((![v485] : Fin 1 → IVec S16 32) a x).toNat < S100000.size a)
instance k0_chk116.dec : ∀ (v485 : IVec S16 32), Decidable (k0_chk116 v485) := fun v485 => decidable_of_iff' _ (Iff.of_eq (k0_chk116.eq_1 v485))
theorem k0_idx116_inb : ∀ (v485 : IVec S16 32) (k0_hw116 : k0_chk116 v485), ∀ a x, ((![v485] : Fin 1 → IVec S16 32) a x).toNat < S100000.size a := fun v485 k0_hw116 => k0_hw116
def k0_off135 (k0_t12 : Fin k0_t12_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v487 : BitVec 32 := Scalar.addi v461 c48_i32_292
  let v488 : Index := Scalar.indexCast v487
  ![v488.toNat]

def k0_chk117 (v492 : IVec S16 32) : Prop :=
  (∀ a x, ((![v492] : Fin 1 → IVec S16 32) a x).toNat < S100000.size a)
instance k0_chk117.dec : ∀ (v492 : IVec S16 32), Decidable (k0_chk117 v492) := fun v492 => decidable_of_iff' _ (Iff.of_eq (k0_chk117.eq_1 v492))
theorem k0_idx117_inb : ∀ (v492 : IVec S16 32) (k0_hw117 : k0_chk117 v492), ∀ a x, ((![v492] : Fin 1 → IVec S16 32) a x).toNat < S100000.size a := fun v492 k0_hw117 => k0_hw117
def k0_off136 (k0_t12 : Fin k0_t12_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v494 : BitVec 32 := Scalar.addi v461 c64_i32_293
  let v495 : Index := Scalar.indexCast v494
  ![v495.toNat]

def k0_chk118 (v499 : IVec S16 32) : Prop :=
  (∀ a x, ((![v499] : Fin 1 → IVec S16 32) a x).toNat < S100000.size a)
instance k0_chk118.dec : ∀ (v499 : IVec S16 32), Decidable (k0_chk118 v499) := fun v499 => decidable_of_iff' _ (Iff.of_eq (k0_chk118.eq_1 v499))
theorem k0_idx118_inb : ∀ (v499 : IVec S16 32) (k0_hw118 : k0_chk118 v499), ∀ a x, ((![v499] : Fin 1 → IVec S16 32) a x).toNat < S100000.size a := fun v499 k0_hw118 => k0_hw118
def k0_off137 (k0_t12 : Fin k0_t12_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v501 : BitVec 32 := Scalar.addi v461 c80_i32_294
  let v502 : Index := Scalar.indexCast v501
  ![v502.toNat]

def k0_chk119 (v506 : IVec S16 32) : Prop :=
  (∀ a x, ((![v506] : Fin 1 → IVec S16 32) a x).toNat < S100000.size a)
instance k0_chk119.dec : ∀ (v506 : IVec S16 32), Decidable (k0_chk119 v506) := fun v506 => decidable_of_iff' _ (Iff.of_eq (k0_chk119.eq_1 v506))
theorem k0_idx119_inb : ∀ (v506 : IVec S16 32) (k0_hw119 : k0_chk119 v506), ∀ a x, ((![v506] : Fin 1 → IVec S16 32) a x).toNat < S100000.size a := fun v506 k0_hw119 => k0_hw119
def k0_off138 (k0_t12 : Fin k0_t12_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v508 : BitVec 32 := Scalar.addi v461 c96_i32_295
  let v509 : Index := Scalar.indexCast v508
  ![v509.toNat]

def k0_chk120 (v513 : IVec S16 32) : Prop :=
  (∀ a x, ((![v513] : Fin 1 → IVec S16 32) a x).toNat < S100000.size a)
instance k0_chk120.dec : ∀ (v513 : IVec S16 32), Decidable (k0_chk120 v513) := fun v513 => decidable_of_iff' _ (Iff.of_eq (k0_chk120.eq_1 v513))
theorem k0_idx120_inb : ∀ (v513 : IVec S16 32) (k0_hw120 : k0_chk120 v513), ∀ a x, ((![v513] : Fin 1 → IVec S16 32) a x).toNat < S100000.size a := fun v513 k0_hw120 => k0_hw120
def k0_off139 (k0_t12 : Fin k0_t12_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v515 : BitVec 32 := Scalar.addi v461 c112_i32_296
  let v516 : Index := Scalar.indexCast v515
  ![v516.toNat]

def k0_chk121 (v520 : IVec S16 32) : Prop :=
  (∀ a x, ((![v520] : Fin 1 → IVec S16 32) a x).toNat < S100000.size a)
instance k0_chk121.dec : ∀ (v520 : IVec S16 32), Decidable (k0_chk121 v520) := fun v520 => decidable_of_iff' _ (Iff.of_eq (k0_chk121.eq_1 v520))
theorem k0_idx121_inb : ∀ (v520 : IVec S16 32) (k0_hw121 : k0_chk121 v520), ∀ a x, ((![v520] : Fin 1 → IVec S16 32) a x).toNat < S100000.size a := fun v520 k0_hw121 => k0_hw121
def k0_off140 (k0_t12 : Fin k0_t12_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v522 : BitVec 32 := Scalar.addi v461 c128_i32_297
  let v523 : Index := Scalar.indexCast v522
  ![v523.toNat]

def k0_chk122 (v527 : IVec S16 32) : Prop :=
  (∀ a x, ((![v527] : Fin 1 → IVec S16 32) a x).toNat < S100000.size a)
instance k0_chk122.dec : ∀ (v527 : IVec S16 32), Decidable (k0_chk122 v527) := fun v527 => decidable_of_iff' _ (Iff.of_eq (k0_chk122.eq_1 v527))
theorem k0_idx122_inb : ∀ (v527 : IVec S16 32) (k0_hw122 : k0_chk122 v527), ∀ a x, ((![v527] : Fin 1 → IVec S16 32) a x).toNat < S100000.size a := fun v527 k0_hw122 => k0_hw122
def k0_off141 (k0_t12 : Fin k0_t12_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v529 : BitVec 32 := Scalar.addi v461 c144_i32_299
  let v530 : Index := Scalar.indexCast v529
  ![v530.toNat]

def k0_chk123 (v534 : IVec S16 32) : Prop :=
  (∀ a x, ((![v534] : Fin 1 → IVec S16 32) a x).toNat < S100000.size a)
instance k0_chk123.dec : ∀ (v534 : IVec S16 32), Decidable (k0_chk123 v534) := fun v534 => decidable_of_iff' _ (Iff.of_eq (k0_chk123.eq_1 v534))
theorem k0_idx123_inb : ∀ (v534 : IVec S16 32) (k0_hw123 : k0_chk123 v534), ∀ a x, ((![v534] : Fin 1 → IVec S16 32) a x).toNat < S100000.size a := fun v534 k0_hw123 => k0_hw123
def k0_off142 (k0_t12 : Fin k0_t12_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v536 : BitVec 32 := Scalar.addi v461 c160_i32_300
  let v537 : Index := Scalar.indexCast v536
  ![v537.toNat]

def k0_chk124 (v541 : IVec S16 32) : Prop :=
  (∀ a x, ((![v541] : Fin 1 → IVec S16 32) a x).toNat < S100000.size a)
instance k0_chk124.dec : ∀ (v541 : IVec S16 32), Decidable (k0_chk124 v541) := fun v541 => decidable_of_iff' _ (Iff.of_eq (k0_chk124.eq_1 v541))
theorem k0_idx124_inb : ∀ (v541 : IVec S16 32) (k0_hw124 : k0_chk124 v541), ∀ a x, ((![v541] : Fin 1 → IVec S16 32) a x).toNat < S100000.size a := fun v541 k0_hw124 => k0_hw124
def k0_off143 (k0_t12 : Fin k0_t12_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v543 : BitVec 32 := Scalar.addi v461 c176_i32_301
  let v544 : Index := Scalar.indexCast v543
  ![v544.toNat]

def k0_chk125 (v548 : IVec S16 32) : Prop :=
  (∀ a x, ((![v548] : Fin 1 → IVec S16 32) a x).toNat < S100000.size a)
instance k0_chk125.dec : ∀ (v548 : IVec S16 32), Decidable (k0_chk125 v548) := fun v548 => decidable_of_iff' _ (Iff.of_eq (k0_chk125.eq_1 v548))
theorem k0_idx125_inb : ∀ (v548 : IVec S16 32) (k0_hw125 : k0_chk125 v548), ∀ a x, ((![v548] : Fin 1 → IVec S16 32) a x).toNat < S100000.size a := fun v548 k0_hw125 => k0_hw125
def k0_off144 (k0_t12 : Fin k0_t12_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v550 : BitVec 32 := Scalar.addi v461 c192_i32_302
  let v551 : Index := Scalar.indexCast v550
  ![v551.toNat]

def k0_chk126 (v555 : IVec S16 32) : Prop :=
  (∀ a x, ((![v555] : Fin 1 → IVec S16 32) a x).toNat < S100000.size a)
instance k0_chk126.dec : ∀ (v555 : IVec S16 32), Decidable (k0_chk126 v555) := fun v555 => decidable_of_iff' _ (Iff.of_eq (k0_chk126.eq_1 v555))
theorem k0_idx126_inb : ∀ (v555 : IVec S16 32) (k0_hw126 : k0_chk126 v555), ∀ a x, ((![v555] : Fin 1 → IVec S16 32) a x).toNat < S100000.size a := fun v555 k0_hw126 => k0_hw126
def k0_off145 (k0_t12 : Fin k0_t12_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v557 : BitVec 32 := Scalar.addi v461 c208_i32_303
  let v558 : Index := Scalar.indexCast v557
  ![v558.toNat]

def k0_chk127 (v562 : IVec S16 32) : Prop :=
  (∀ a x, ((![v562] : Fin 1 → IVec S16 32) a x).toNat < S100000.size a)
instance k0_chk127.dec : ∀ (v562 : IVec S16 32), Decidable (k0_chk127 v562) := fun v562 => decidable_of_iff' _ (Iff.of_eq (k0_chk127.eq_1 v562))
theorem k0_idx127_inb : ∀ (v562 : IVec S16 32) (k0_hw127 : k0_chk127 v562), ∀ a x, ((![v562] : Fin 1 → IVec S16 32) a x).toNat < S100000.size a := fun v562 k0_hw127 => k0_hw127
def k0_off146 (k0_t12 : Fin k0_t12_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let v564 : BitVec 32 := Scalar.addi v461 c224_i32_304
  let v565 : Index := Scalar.indexCast v564
  ![v565.toNat]

def k0_chk128 (v569 : IVec S16 32) : Prop :=
  (∀ a x, ((![v569] : Fin 1 → IVec S16 32) a x).toNat < S100000.size a)
instance k0_chk128.dec : ∀ (v569 : IVec S16 32), Decidable (k0_chk128 v569) := fun v569 => decidable_of_iff' _ (Iff.of_eq (k0_chk128.eq_1 v569))
theorem k0_idx128_inb : ∀ (v569 : IVec S16 32) (k0_hw128 : k0_chk128 v569), ∀ a x, ((![v569] : Fin 1 → IVec S16 32) a x).toNat < S100000.size a := fun v569 k0_hw128 => k0_hw128
def k0_off147 (k0_t12 : Fin k0_t12_loop.trips) : Fin 1 → Nat :=
  let c0_i32_281 : BitVec 32 := 0#32
  let c1_i32_283 : BitVec 32 := 1#32
  let arg36 : BitVec 32 := Scf.iv c0_i32_281 c1_i32_283 k0_t12
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off148 (i : grid0.Coords) (k0_t10 : Fin (k0_t10_loop i).trips) : Fin 2 → Nat :=
  let c36_i32_285 : BitVec 32 := 36#32
  let c36_i32_25 : BitVec 32 := 36#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c36_i32_23 : BitVec 32 := 36#32
  let v55 : BitVec 32 := Scalar.subi v19 c36_i32_23
  let v56 : BitVec 32 := Scalar.maxsi c0_i32_24 v55
  let v57 : BitVec 32 := Scalar.minsi c36_i32_25 v56
  let c36_i32_28 : BitVec 32 := 36#32
  let c0_i32_27 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c36_i32_26 : BitVec 32 := 36#32
  let v58 : BitVec 32 := Scalar.subi v38 c36_i32_26
  let v59 : BitVec 32 := Scalar.maxsi c0_i32_27 v58
  let v60 : BitVec 32 := Scalar.minsi c36_i32_28 v59
  let v64 : BitVec 32 := Scalar.subi v60 v57
  let c1_i32_31 : BitVec 32 := 1#32
  let v66 : BitVec 32 := Scalar.divsi v64 c1_i32_31
  let v67 : BitVec 32 := Scalar.muli v66 c1_i32_31
  let v68 : BitVec 32 := Scalar.addi v57 v67
  let c1_i32_33 : BitVec 32 := 1#32
  let arg34 : BitVec 32 := Scf.iv v68 c1_i32_33 k0_t10
  let v460 : BitVec 32 := Scalar.addi c36_i32_285 arg34
  let c8192_i32_r15 : BitVec 32 := 8192#32
  ![v460.toNat, 8192]
@[reducible] def k0_t13_loop (i : grid0.Coords) : Scf.Loop 32 :=
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c36_i32_38 : BitVec 32 := 36#32
  let c0_i32_37 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_36 : BitVec 32 := 72#32
  let v74 : BitVec 32 := Scalar.subi v38 c72_i32_36
  let v75 : BitVec 32 := Scalar.maxsi c0_i32_37 v74
  let v76 : BitVec 32 := Scalar.minsi c36_i32_38 v75
  let v80 : BitVec 32 := Scalar.subi v76 v73
  let c1_i32_41 : BitVec 32 := 1#32
  let v82 : BitVec 32 := Scalar.divsi v80 c1_i32_41
  let v83 : BitVec 32 := Scalar.muli v82 c1_i32_41
  let v84 : BitVec 32 := Scalar.addi v73 v83
  let c1_i32_42 : BitVec 32 := 1#32
  ⟨v73, v84, c1_i32_42⟩
def k0_off149 (i : grid0.Coords) (k0_t13 : Fin (k0_t13_loop i).trips) : Fin 2 → Nat :=
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c1_i32_42 : BitVec 32 := 1#32
  let arg34 : BitVec 32 := Scf.iv v73 c1_i32_42 k0_t13
  let c0_i32_287_r18 : BitVec 32 := 0#32
  ![arg34.toNat, 0]
@[reducible] def k0_t14_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off150 (k0_t14 : Fin k0_t14_loop.trips) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk129 (v464 : IVec S16 32) : Prop :=
  (∀ a x, ((![v464] : Fin 1 → IVec S16 32) a x).toNat < S100000.size a)
instance k0_chk129.dec : ∀ (v464 : IVec S16 32), Decidable (k0_chk129 v464) := fun v464 => decidable_of_iff' _ (Iff.of_eq (k0_chk129.eq_1 v464))
theorem k0_idx129_inb : ∀ (v464 : IVec S16 32) (k0_hw129 : k0_chk129 v464), ∀ a x, ((![v464] : Fin 1 → IVec S16 32) a x).toNat < S100000.size a := fun v464 k0_hw129 => k0_hw129
def k0_off151 (k0_t14 : Fin k0_t14_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v466 : BitVec 32 := Scalar.addi v461 c0_i32_288
  let v467 : Index := Scalar.indexCast v466
  ![v467.toNat]

def k0_chk130 (v471 : IVec S16 32) : Prop :=
  (∀ a x, ((![v471] : Fin 1 → IVec S16 32) a x).toNat < S100000.size a)
instance k0_chk130.dec : ∀ (v471 : IVec S16 32), Decidable (k0_chk130 v471) := fun v471 => decidable_of_iff' _ (Iff.of_eq (k0_chk130.eq_1 v471))
theorem k0_idx130_inb : ∀ (v471 : IVec S16 32) (k0_hw130 : k0_chk130 v471), ∀ a x, ((![v471] : Fin 1 → IVec S16 32) a x).toNat < S100000.size a := fun v471 k0_hw130 => k0_hw130
def k0_off152 (k0_t14 : Fin k0_t14_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v473 : BitVec 32 := Scalar.addi v461 c16_i32_289
  let v474 : Index := Scalar.indexCast v473
  ![v474.toNat]

def k0_chk131 (v478 : IVec S16 32) : Prop :=
  (∀ a x, ((![v478] : Fin 1 → IVec S16 32) a x).toNat < S100000.size a)
instance k0_chk131.dec : ∀ (v478 : IVec S16 32), Decidable (k0_chk131 v478) := fun v478 => decidable_of_iff' _ (Iff.of_eq (k0_chk131.eq_1 v478))
theorem k0_idx131_inb : ∀ (v478 : IVec S16 32) (k0_hw131 : k0_chk131 v478), ∀ a x, ((![v478] : Fin 1 → IVec S16 32) a x).toNat < S100000.size a := fun v478 k0_hw131 => k0_hw131
def k0_off153 (k0_t14 : Fin k0_t14_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v480 : BitVec 32 := Scalar.addi v461 c32_i32_291
  let v481 : Index := Scalar.indexCast v480
  ![v481.toNat]

def k0_chk132 (v485 : IVec S16 32) : Prop :=
  (∀ a x, ((![v485] : Fin 1 → IVec S16 32) a x).toNat < S100000.size a)
instance k0_chk132.dec : ∀ (v485 : IVec S16 32), Decidable (k0_chk132 v485) := fun v485 => decidable_of_iff' _ (Iff.of_eq (k0_chk132.eq_1 v485))
theorem k0_idx132_inb : ∀ (v485 : IVec S16 32) (k0_hw132 : k0_chk132 v485), ∀ a x, ((![v485] : Fin 1 → IVec S16 32) a x).toNat < S100000.size a := fun v485 k0_hw132 => k0_hw132
def k0_off154 (k0_t14 : Fin k0_t14_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v487 : BitVec 32 := Scalar.addi v461 c48_i32_292
  let v488 : Index := Scalar.indexCast v487
  ![v488.toNat]

def k0_chk133 (v492 : IVec S16 32) : Prop :=
  (∀ a x, ((![v492] : Fin 1 → IVec S16 32) a x).toNat < S100000.size a)
instance k0_chk133.dec : ∀ (v492 : IVec S16 32), Decidable (k0_chk133 v492) := fun v492 => decidable_of_iff' _ (Iff.of_eq (k0_chk133.eq_1 v492))
theorem k0_idx133_inb : ∀ (v492 : IVec S16 32) (k0_hw133 : k0_chk133 v492), ∀ a x, ((![v492] : Fin 1 → IVec S16 32) a x).toNat < S100000.size a := fun v492 k0_hw133 => k0_hw133
def k0_off155 (k0_t14 : Fin k0_t14_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v494 : BitVec 32 := Scalar.addi v461 c64_i32_293
  let v495 : Index := Scalar.indexCast v494
  ![v495.toNat]

def k0_chk134 (v499 : IVec S16 32) : Prop :=
  (∀ a x, ((![v499] : Fin 1 → IVec S16 32) a x).toNat < S100000.size a)
instance k0_chk134.dec : ∀ (v499 : IVec S16 32), Decidable (k0_chk134 v499) := fun v499 => decidable_of_iff' _ (Iff.of_eq (k0_chk134.eq_1 v499))
theorem k0_idx134_inb : ∀ (v499 : IVec S16 32) (k0_hw134 : k0_chk134 v499), ∀ a x, ((![v499] : Fin 1 → IVec S16 32) a x).toNat < S100000.size a := fun v499 k0_hw134 => k0_hw134
def k0_off156 (k0_t14 : Fin k0_t14_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v501 : BitVec 32 := Scalar.addi v461 c80_i32_294
  let v502 : Index := Scalar.indexCast v501
  ![v502.toNat]

def k0_chk135 (v506 : IVec S16 32) : Prop :=
  (∀ a x, ((![v506] : Fin 1 → IVec S16 32) a x).toNat < S100000.size a)
instance k0_chk135.dec : ∀ (v506 : IVec S16 32), Decidable (k0_chk135 v506) := fun v506 => decidable_of_iff' _ (Iff.of_eq (k0_chk135.eq_1 v506))
theorem k0_idx135_inb : ∀ (v506 : IVec S16 32) (k0_hw135 : k0_chk135 v506), ∀ a x, ((![v506] : Fin 1 → IVec S16 32) a x).toNat < S100000.size a := fun v506 k0_hw135 => k0_hw135
def k0_off157 (k0_t14 : Fin k0_t14_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v508 : BitVec 32 := Scalar.addi v461 c96_i32_295
  let v509 : Index := Scalar.indexCast v508
  ![v509.toNat]

def k0_chk136 (v513 : IVec S16 32) : Prop :=
  (∀ a x, ((![v513] : Fin 1 → IVec S16 32) a x).toNat < S100000.size a)
instance k0_chk136.dec : ∀ (v513 : IVec S16 32), Decidable (k0_chk136 v513) := fun v513 => decidable_of_iff' _ (Iff.of_eq (k0_chk136.eq_1 v513))
theorem k0_idx136_inb : ∀ (v513 : IVec S16 32) (k0_hw136 : k0_chk136 v513), ∀ a x, ((![v513] : Fin 1 → IVec S16 32) a x).toNat < S100000.size a := fun v513 k0_hw136 => k0_hw136
def k0_off158 (k0_t14 : Fin k0_t14_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v515 : BitVec 32 := Scalar.addi v461 c112_i32_296
  let v516 : Index := Scalar.indexCast v515
  ![v516.toNat]

def k0_chk137 (v520 : IVec S16 32) : Prop :=
  (∀ a x, ((![v520] : Fin 1 → IVec S16 32) a x).toNat < S100000.size a)
instance k0_chk137.dec : ∀ (v520 : IVec S16 32), Decidable (k0_chk137 v520) := fun v520 => decidable_of_iff' _ (Iff.of_eq (k0_chk137.eq_1 v520))
theorem k0_idx137_inb : ∀ (v520 : IVec S16 32) (k0_hw137 : k0_chk137 v520), ∀ a x, ((![v520] : Fin 1 → IVec S16 32) a x).toNat < S100000.size a := fun v520 k0_hw137 => k0_hw137
def k0_off159 (k0_t14 : Fin k0_t14_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v522 : BitVec 32 := Scalar.addi v461 c128_i32_297
  let v523 : Index := Scalar.indexCast v522
  ![v523.toNat]

def k0_chk138 (v527 : IVec S16 32) : Prop :=
  (∀ a x, ((![v527] : Fin 1 → IVec S16 32) a x).toNat < S100000.size a)
instance k0_chk138.dec : ∀ (v527 : IVec S16 32), Decidable (k0_chk138 v527) := fun v527 => decidable_of_iff' _ (Iff.of_eq (k0_chk138.eq_1 v527))
theorem k0_idx138_inb : ∀ (v527 : IVec S16 32) (k0_hw138 : k0_chk138 v527), ∀ a x, ((![v527] : Fin 1 → IVec S16 32) a x).toNat < S100000.size a := fun v527 k0_hw138 => k0_hw138
def k0_off160 (k0_t14 : Fin k0_t14_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v529 : BitVec 32 := Scalar.addi v461 c144_i32_299
  let v530 : Index := Scalar.indexCast v529
  ![v530.toNat]

def k0_chk139 (v534 : IVec S16 32) : Prop :=
  (∀ a x, ((![v534] : Fin 1 → IVec S16 32) a x).toNat < S100000.size a)
instance k0_chk139.dec : ∀ (v534 : IVec S16 32), Decidable (k0_chk139 v534) := fun v534 => decidable_of_iff' _ (Iff.of_eq (k0_chk139.eq_1 v534))
theorem k0_idx139_inb : ∀ (v534 : IVec S16 32) (k0_hw139 : k0_chk139 v534), ∀ a x, ((![v534] : Fin 1 → IVec S16 32) a x).toNat < S100000.size a := fun v534 k0_hw139 => k0_hw139
def k0_off161 (k0_t14 : Fin k0_t14_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v536 : BitVec 32 := Scalar.addi v461 c160_i32_300
  let v537 : Index := Scalar.indexCast v536
  ![v537.toNat]

def k0_chk140 (v541 : IVec S16 32) : Prop :=
  (∀ a x, ((![v541] : Fin 1 → IVec S16 32) a x).toNat < S100000.size a)
instance k0_chk140.dec : ∀ (v541 : IVec S16 32), Decidable (k0_chk140 v541) := fun v541 => decidable_of_iff' _ (Iff.of_eq (k0_chk140.eq_1 v541))
theorem k0_idx140_inb : ∀ (v541 : IVec S16 32) (k0_hw140 : k0_chk140 v541), ∀ a x, ((![v541] : Fin 1 → IVec S16 32) a x).toNat < S100000.size a := fun v541 k0_hw140 => k0_hw140
def k0_off162 (k0_t14 : Fin k0_t14_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v543 : BitVec 32 := Scalar.addi v461 c176_i32_301
  let v544 : Index := Scalar.indexCast v543
  ![v544.toNat]

def k0_chk141 (v548 : IVec S16 32) : Prop :=
  (∀ a x, ((![v548] : Fin 1 → IVec S16 32) a x).toNat < S100000.size a)
instance k0_chk141.dec : ∀ (v548 : IVec S16 32), Decidable (k0_chk141 v548) := fun v548 => decidable_of_iff' _ (Iff.of_eq (k0_chk141.eq_1 v548))
theorem k0_idx141_inb : ∀ (v548 : IVec S16 32) (k0_hw141 : k0_chk141 v548), ∀ a x, ((![v548] : Fin 1 → IVec S16 32) a x).toNat < S100000.size a := fun v548 k0_hw141 => k0_hw141
def k0_off163 (k0_t14 : Fin k0_t14_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v550 : BitVec 32 := Scalar.addi v461 c192_i32_302
  let v551 : Index := Scalar.indexCast v550
  ![v551.toNat]

def k0_chk142 (v555 : IVec S16 32) : Prop :=
  (∀ a x, ((![v555] : Fin 1 → IVec S16 32) a x).toNat < S100000.size a)
instance k0_chk142.dec : ∀ (v555 : IVec S16 32), Decidable (k0_chk142 v555) := fun v555 => decidable_of_iff' _ (Iff.of_eq (k0_chk142.eq_1 v555))
theorem k0_idx142_inb : ∀ (v555 : IVec S16 32) (k0_hw142 : k0_chk142 v555), ∀ a x, ((![v555] : Fin 1 → IVec S16 32) a x).toNat < S100000.size a := fun v555 k0_hw142 => k0_hw142
def k0_off164 (k0_t14 : Fin k0_t14_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v557 : BitVec 32 := Scalar.addi v461 c208_i32_303
  let v558 : Index := Scalar.indexCast v557
  ![v558.toNat]

def k0_chk143 (v562 : IVec S16 32) : Prop :=
  (∀ a x, ((![v562] : Fin 1 → IVec S16 32) a x).toNat < S100000.size a)
instance k0_chk143.dec : ∀ (v562 : IVec S16 32), Decidable (k0_chk143 v562) := fun v562 => decidable_of_iff' _ (Iff.of_eq (k0_chk143.eq_1 v562))
theorem k0_idx143_inb : ∀ (v562 : IVec S16 32) (k0_hw143 : k0_chk143 v562), ∀ a x, ((![v562] : Fin 1 → IVec S16 32) a x).toNat < S100000.size a := fun v562 k0_hw143 => k0_hw143
def k0_off165 (k0_t14 : Fin k0_t14_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let v564 : BitVec 32 := Scalar.addi v461 c224_i32_304
  let v565 : Index := Scalar.indexCast v564
  ![v565.toNat]

def k0_chk144 (v569 : IVec S16 32) : Prop :=
  (∀ a x, ((![v569] : Fin 1 → IVec S16 32) a x).toNat < S100000.size a)
instance k0_chk144.dec : ∀ (v569 : IVec S16 32), Decidable (k0_chk144 v569) := fun v569 => decidable_of_iff' _ (Iff.of_eq (k0_chk144.eq_1 v569))
theorem k0_idx144_inb : ∀ (v569 : IVec S16 32) (k0_hw144 : k0_chk144 v569), ∀ a x, ((![v569] : Fin 1 → IVec S16 32) a x).toNat < S100000.size a := fun v569 k0_hw144 => k0_hw144
def k0_off166 (k0_t14 : Fin k0_t14_loop.trips) : Fin 1 → Nat :=
  let c0_i32_275 : BitVec 32 := 0#32
  let c1_i32_277 : BitVec 32 := 1#32
  let arg36 : BitVec 32 := Scf.iv c0_i32_275 c1_i32_277 k0_t14
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off167 (i : grid0.Coords) (k0_t13 : Fin (k0_t13_loop i).trips) : Fin 2 → Nat :=
  let c72_i32_279 : BitVec 32 := 72#32
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c1_i32_42 : BitVec 32 := 1#32
  let arg34 : BitVec 32 := Scf.iv v73 c1_i32_42 k0_t13
  let v457 : BitVec 32 := Scalar.addi c72_i32_279 arg34
  let c0_i32_287_r19 : BitVec 32 := 0#32
  ![v457.toNat, 0]
@[reducible] def k0_t15_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off168 (k0_t15 : Fin k0_t15_loop.trips) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk145 (v464 : IVec S16 32) : Prop :=
  (∀ a x, ((![v464] : Fin 1 → IVec S16 32) a x).toNat < S100000.size a)
instance k0_chk145.dec : ∀ (v464 : IVec S16 32), Decidable (k0_chk145 v464) := fun v464 => decidable_of_iff' _ (Iff.of_eq (k0_chk145.eq_1 v464))
theorem k0_idx145_inb : ∀ (v464 : IVec S16 32) (k0_hw145 : k0_chk145 v464), ∀ a x, ((![v464] : Fin 1 → IVec S16 32) a x).toNat < S100000.size a := fun v464 k0_hw145 => k0_hw145
def k0_off169 (k0_t15 : Fin k0_t15_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v466 : BitVec 32 := Scalar.addi v461 c0_i32_288
  let v467 : Index := Scalar.indexCast v466
  ![v467.toNat]

def k0_chk146 (v471 : IVec S16 32) : Prop :=
  (∀ a x, ((![v471] : Fin 1 → IVec S16 32) a x).toNat < S100000.size a)
instance k0_chk146.dec : ∀ (v471 : IVec S16 32), Decidable (k0_chk146 v471) := fun v471 => decidable_of_iff' _ (Iff.of_eq (k0_chk146.eq_1 v471))
theorem k0_idx146_inb : ∀ (v471 : IVec S16 32) (k0_hw146 : k0_chk146 v471), ∀ a x, ((![v471] : Fin 1 → IVec S16 32) a x).toNat < S100000.size a := fun v471 k0_hw146 => k0_hw146
def k0_off170 (k0_t15 : Fin k0_t15_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v473 : BitVec 32 := Scalar.addi v461 c16_i32_289
  let v474 : Index := Scalar.indexCast v473
  ![v474.toNat]

def k0_chk147 (v478 : IVec S16 32) : Prop :=
  (∀ a x, ((![v478] : Fin 1 → IVec S16 32) a x).toNat < S100000.size a)
instance k0_chk147.dec : ∀ (v478 : IVec S16 32), Decidable (k0_chk147 v478) := fun v478 => decidable_of_iff' _ (Iff.of_eq (k0_chk147.eq_1 v478))
theorem k0_idx147_inb : ∀ (v478 : IVec S16 32) (k0_hw147 : k0_chk147 v478), ∀ a x, ((![v478] : Fin 1 → IVec S16 32) a x).toNat < S100000.size a := fun v478 k0_hw147 => k0_hw147
def k0_off171 (k0_t15 : Fin k0_t15_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v480 : BitVec 32 := Scalar.addi v461 c32_i32_291
  let v481 : Index := Scalar.indexCast v480
  ![v481.toNat]

def k0_chk148 (v485 : IVec S16 32) : Prop :=
  (∀ a x, ((![v485] : Fin 1 → IVec S16 32) a x).toNat < S100000.size a)
instance k0_chk148.dec : ∀ (v485 : IVec S16 32), Decidable (k0_chk148 v485) := fun v485 => decidable_of_iff' _ (Iff.of_eq (k0_chk148.eq_1 v485))
theorem k0_idx148_inb : ∀ (v485 : IVec S16 32) (k0_hw148 : k0_chk148 v485), ∀ a x, ((![v485] : Fin 1 → IVec S16 32) a x).toNat < S100000.size a := fun v485 k0_hw148 => k0_hw148
def k0_off172 (k0_t15 : Fin k0_t15_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v487 : BitVec 32 := Scalar.addi v461 c48_i32_292
  let v488 : Index := Scalar.indexCast v487
  ![v488.toNat]

def k0_chk149 (v492 : IVec S16 32) : Prop :=
  (∀ a x, ((![v492] : Fin 1 → IVec S16 32) a x).toNat < S100000.size a)
instance k0_chk149.dec : ∀ (v492 : IVec S16 32), Decidable (k0_chk149 v492) := fun v492 => decidable_of_iff' _ (Iff.of_eq (k0_chk149.eq_1 v492))
theorem k0_idx149_inb : ∀ (v492 : IVec S16 32) (k0_hw149 : k0_chk149 v492), ∀ a x, ((![v492] : Fin 1 → IVec S16 32) a x).toNat < S100000.size a := fun v492 k0_hw149 => k0_hw149
def k0_off173 (k0_t15 : Fin k0_t15_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v494 : BitVec 32 := Scalar.addi v461 c64_i32_293
  let v495 : Index := Scalar.indexCast v494
  ![v495.toNat]

def k0_chk150 (v499 : IVec S16 32) : Prop :=
  (∀ a x, ((![v499] : Fin 1 → IVec S16 32) a x).toNat < S100000.size a)
instance k0_chk150.dec : ∀ (v499 : IVec S16 32), Decidable (k0_chk150 v499) := fun v499 => decidable_of_iff' _ (Iff.of_eq (k0_chk150.eq_1 v499))
theorem k0_idx150_inb : ∀ (v499 : IVec S16 32) (k0_hw150 : k0_chk150 v499), ∀ a x, ((![v499] : Fin 1 → IVec S16 32) a x).toNat < S100000.size a := fun v499 k0_hw150 => k0_hw150
def k0_off174 (k0_t15 : Fin k0_t15_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v501 : BitVec 32 := Scalar.addi v461 c80_i32_294
  let v502 : Index := Scalar.indexCast v501
  ![v502.toNat]

def k0_chk151 (v506 : IVec S16 32) : Prop :=
  (∀ a x, ((![v506] : Fin 1 → IVec S16 32) a x).toNat < S100000.size a)
instance k0_chk151.dec : ∀ (v506 : IVec S16 32), Decidable (k0_chk151 v506) := fun v506 => decidable_of_iff' _ (Iff.of_eq (k0_chk151.eq_1 v506))
theorem k0_idx151_inb : ∀ (v506 : IVec S16 32) (k0_hw151 : k0_chk151 v506), ∀ a x, ((![v506] : Fin 1 → IVec S16 32) a x).toNat < S100000.size a := fun v506 k0_hw151 => k0_hw151
def k0_off175 (k0_t15 : Fin k0_t15_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v508 : BitVec 32 := Scalar.addi v461 c96_i32_295
  let v509 : Index := Scalar.indexCast v508
  ![v509.toNat]

def k0_chk152 (v513 : IVec S16 32) : Prop :=
  (∀ a x, ((![v513] : Fin 1 → IVec S16 32) a x).toNat < S100000.size a)
instance k0_chk152.dec : ∀ (v513 : IVec S16 32), Decidable (k0_chk152 v513) := fun v513 => decidable_of_iff' _ (Iff.of_eq (k0_chk152.eq_1 v513))
theorem k0_idx152_inb : ∀ (v513 : IVec S16 32) (k0_hw152 : k0_chk152 v513), ∀ a x, ((![v513] : Fin 1 → IVec S16 32) a x).toNat < S100000.size a := fun v513 k0_hw152 => k0_hw152
def k0_off176 (k0_t15 : Fin k0_t15_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v515 : BitVec 32 := Scalar.addi v461 c112_i32_296
  let v516 : Index := Scalar.indexCast v515
  ![v516.toNat]

def k0_chk153 (v520 : IVec S16 32) : Prop :=
  (∀ a x, ((![v520] : Fin 1 → IVec S16 32) a x).toNat < S100000.size a)
instance k0_chk153.dec : ∀ (v520 : IVec S16 32), Decidable (k0_chk153 v520) := fun v520 => decidable_of_iff' _ (Iff.of_eq (k0_chk153.eq_1 v520))
theorem k0_idx153_inb : ∀ (v520 : IVec S16 32) (k0_hw153 : k0_chk153 v520), ∀ a x, ((![v520] : Fin 1 → IVec S16 32) a x).toNat < S100000.size a := fun v520 k0_hw153 => k0_hw153
def k0_off177 (k0_t15 : Fin k0_t15_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v522 : BitVec 32 := Scalar.addi v461 c128_i32_297
  let v523 : Index := Scalar.indexCast v522
  ![v523.toNat]

def k0_chk154 (v527 : IVec S16 32) : Prop :=
  (∀ a x, ((![v527] : Fin 1 → IVec S16 32) a x).toNat < S100000.size a)
instance k0_chk154.dec : ∀ (v527 : IVec S16 32), Decidable (k0_chk154 v527) := fun v527 => decidable_of_iff' _ (Iff.of_eq (k0_chk154.eq_1 v527))
theorem k0_idx154_inb : ∀ (v527 : IVec S16 32) (k0_hw154 : k0_chk154 v527), ∀ a x, ((![v527] : Fin 1 → IVec S16 32) a x).toNat < S100000.size a := fun v527 k0_hw154 => k0_hw154
def k0_off178 (k0_t15 : Fin k0_t15_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v529 : BitVec 32 := Scalar.addi v461 c144_i32_299
  let v530 : Index := Scalar.indexCast v529
  ![v530.toNat]

def k0_chk155 (v534 : IVec S16 32) : Prop :=
  (∀ a x, ((![v534] : Fin 1 → IVec S16 32) a x).toNat < S100000.size a)
instance k0_chk155.dec : ∀ (v534 : IVec S16 32), Decidable (k0_chk155 v534) := fun v534 => decidable_of_iff' _ (Iff.of_eq (k0_chk155.eq_1 v534))
theorem k0_idx155_inb : ∀ (v534 : IVec S16 32) (k0_hw155 : k0_chk155 v534), ∀ a x, ((![v534] : Fin 1 → IVec S16 32) a x).toNat < S100000.size a := fun v534 k0_hw155 => k0_hw155
def k0_off179 (k0_t15 : Fin k0_t15_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v536 : BitVec 32 := Scalar.addi v461 c160_i32_300
  let v537 : Index := Scalar.indexCast v536
  ![v537.toNat]

def k0_chk156 (v541 : IVec S16 32) : Prop :=
  (∀ a x, ((![v541] : Fin 1 → IVec S16 32) a x).toNat < S100000.size a)
instance k0_chk156.dec : ∀ (v541 : IVec S16 32), Decidable (k0_chk156 v541) := fun v541 => decidable_of_iff' _ (Iff.of_eq (k0_chk156.eq_1 v541))
theorem k0_idx156_inb : ∀ (v541 : IVec S16 32) (k0_hw156 : k0_chk156 v541), ∀ a x, ((![v541] : Fin 1 → IVec S16 32) a x).toNat < S100000.size a := fun v541 k0_hw156 => k0_hw156
def k0_off180 (k0_t15 : Fin k0_t15_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v543 : BitVec 32 := Scalar.addi v461 c176_i32_301
  let v544 : Index := Scalar.indexCast v543
  ![v544.toNat]

def k0_chk157 (v548 : IVec S16 32) : Prop :=
  (∀ a x, ((![v548] : Fin 1 → IVec S16 32) a x).toNat < S100000.size a)
instance k0_chk157.dec : ∀ (v548 : IVec S16 32), Decidable (k0_chk157 v548) := fun v548 => decidable_of_iff' _ (Iff.of_eq (k0_chk157.eq_1 v548))
theorem k0_idx157_inb : ∀ (v548 : IVec S16 32) (k0_hw157 : k0_chk157 v548), ∀ a x, ((![v548] : Fin 1 → IVec S16 32) a x).toNat < S100000.size a := fun v548 k0_hw157 => k0_hw157
def k0_off181 (k0_t15 : Fin k0_t15_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v550 : BitVec 32 := Scalar.addi v461 c192_i32_302
  let v551 : Index := Scalar.indexCast v550
  ![v551.toNat]

def k0_chk158 (v555 : IVec S16 32) : Prop :=
  (∀ a x, ((![v555] : Fin 1 → IVec S16 32) a x).toNat < S100000.size a)
instance k0_chk158.dec : ∀ (v555 : IVec S16 32), Decidable (k0_chk158 v555) := fun v555 => decidable_of_iff' _ (Iff.of_eq (k0_chk158.eq_1 v555))
theorem k0_idx158_inb : ∀ (v555 : IVec S16 32) (k0_hw158 : k0_chk158 v555), ∀ a x, ((![v555] : Fin 1 → IVec S16 32) a x).toNat < S100000.size a := fun v555 k0_hw158 => k0_hw158
def k0_off182 (k0_t15 : Fin k0_t15_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v557 : BitVec 32 := Scalar.addi v461 c208_i32_303
  let v558 : Index := Scalar.indexCast v557
  ![v558.toNat]

def k0_chk159 (v562 : IVec S16 32) : Prop :=
  (∀ a x, ((![v562] : Fin 1 → IVec S16 32) a x).toNat < S100000.size a)
instance k0_chk159.dec : ∀ (v562 : IVec S16 32), Decidable (k0_chk159 v562) := fun v562 => decidable_of_iff' _ (Iff.of_eq (k0_chk159.eq_1 v562))
theorem k0_idx159_inb : ∀ (v562 : IVec S16 32) (k0_hw159 : k0_chk159 v562), ∀ a x, ((![v562] : Fin 1 → IVec S16 32) a x).toNat < S100000.size a := fun v562 k0_hw159 => k0_hw159
def k0_off183 (k0_t15 : Fin k0_t15_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let v564 : BitVec 32 := Scalar.addi v461 c224_i32_304
  let v565 : Index := Scalar.indexCast v564
  ![v565.toNat]

def k0_chk160 (v569 : IVec S16 32) : Prop :=
  (∀ a x, ((![v569] : Fin 1 → IVec S16 32) a x).toNat < S100000.size a)
instance k0_chk160.dec : ∀ (v569 : IVec S16 32), Decidable (k0_chk160 v569) := fun v569 => decidable_of_iff' _ (Iff.of_eq (k0_chk160.eq_1 v569))
theorem k0_idx160_inb : ∀ (v569 : IVec S16 32) (k0_hw160 : k0_chk160 v569), ∀ a x, ((![v569] : Fin 1 → IVec S16 32) a x).toNat < S100000.size a := fun v569 k0_hw160 => k0_hw160
def k0_off184 (k0_t15 : Fin k0_t15_loop.trips) : Fin 1 → Nat :=
  let c0_i32_281 : BitVec 32 := 0#32
  let c1_i32_283 : BitVec 32 := 1#32
  let arg36 : BitVec 32 := Scf.iv c0_i32_281 c1_i32_283 k0_t15
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off185 (i : grid0.Coords) (k0_t13 : Fin (k0_t13_loop i).trips) : Fin 2 → Nat :=
  let c72_i32_285 : BitVec 32 := 72#32
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c1_i32_42 : BitVec 32 := 1#32
  let arg34 : BitVec 32 := Scf.iv v73 c1_i32_42 k0_t13
  let v460 : BitVec 32 := Scalar.addi c72_i32_285 arg34
  let c8192_i32_r20 : BitVec 32 := 8192#32
  ![v460.toNat, 8192]
@[reducible] def k0_t16_loop (i : grid0.Coords) : Scf.Loop 32 :=
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c36_i32_38 : BitVec 32 := 36#32
  let c0_i32_37 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_36 : BitVec 32 := 72#32
  let v74 : BitVec 32 := Scalar.subi v38 c72_i32_36
  let v75 : BitVec 32 := Scalar.maxsi c0_i32_37 v74
  let v76 : BitVec 32 := Scalar.minsi c36_i32_38 v75
  let v80 : BitVec 32 := Scalar.subi v76 v73
  let c1_i32_41 : BitVec 32 := 1#32
  let v82 : BitVec 32 := Scalar.divsi v80 c1_i32_41
  let v83 : BitVec 32 := Scalar.muli v82 c1_i32_41
  let v84 : BitVec 32 := Scalar.addi v73 v83
  let v81 : BitVec 32 := Scalar.addi v73 v80
  let c1_i32_43 : BitVec 32 := 1#32
  ⟨v84, v81, c1_i32_43⟩
def k0_off186 (i : grid0.Coords) (k0_t16 : Fin (k0_t16_loop i).trips) : Fin 2 → Nat :=
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c36_i32_38 : BitVec 32 := 36#32
  let c0_i32_37 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_36 : BitVec 32 := 72#32
  let v74 : BitVec 32 := Scalar.subi v38 c72_i32_36
  let v75 : BitVec 32 := Scalar.maxsi c0_i32_37 v74
  let v76 : BitVec 32 := Scalar.minsi c36_i32_38 v75
  let v80 : BitVec 32 := Scalar.subi v76 v73
  let c1_i32_41 : BitVec 32 := 1#32
  let v82 : BitVec 32 := Scalar.divsi v80 c1_i32_41
  let v83 : BitVec 32 := Scalar.muli v82 c1_i32_41
  let v84 : BitVec 32 := Scalar.addi v73 v83
  let c1_i32_43 : BitVec 32 := 1#32
  let arg34 : BitVec 32 := Scf.iv v84 c1_i32_43 k0_t16
  let c0_i32_287_r21 : BitVec 32 := 0#32
  ![arg34.toNat, 0]
@[reducible] def k0_t17_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off187 (k0_t17 : Fin k0_t17_loop.trips) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk161 (v464 : IVec S16 32) : Prop :=
  (∀ a x, ((![v464] : Fin 1 → IVec S16 32) a x).toNat < S100000.size a)
instance k0_chk161.dec : ∀ (v464 : IVec S16 32), Decidable (k0_chk161 v464) := fun v464 => decidable_of_iff' _ (Iff.of_eq (k0_chk161.eq_1 v464))
theorem k0_idx161_inb : ∀ (v464 : IVec S16 32) (k0_hw161 : k0_chk161 v464), ∀ a x, ((![v464] : Fin 1 → IVec S16 32) a x).toNat < S100000.size a := fun v464 k0_hw161 => k0_hw161
def k0_off188 (k0_t17 : Fin k0_t17_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v466 : BitVec 32 := Scalar.addi v461 c0_i32_288
  let v467 : Index := Scalar.indexCast v466
  ![v467.toNat]

def k0_chk162 (v471 : IVec S16 32) : Prop :=
  (∀ a x, ((![v471] : Fin 1 → IVec S16 32) a x).toNat < S100000.size a)
instance k0_chk162.dec : ∀ (v471 : IVec S16 32), Decidable (k0_chk162 v471) := fun v471 => decidable_of_iff' _ (Iff.of_eq (k0_chk162.eq_1 v471))
theorem k0_idx162_inb : ∀ (v471 : IVec S16 32) (k0_hw162 : k0_chk162 v471), ∀ a x, ((![v471] : Fin 1 → IVec S16 32) a x).toNat < S100000.size a := fun v471 k0_hw162 => k0_hw162
def k0_off189 (k0_t17 : Fin k0_t17_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v473 : BitVec 32 := Scalar.addi v461 c16_i32_289
  let v474 : Index := Scalar.indexCast v473
  ![v474.toNat]

def k0_chk163 (v478 : IVec S16 32) : Prop :=
  (∀ a x, ((![v478] : Fin 1 → IVec S16 32) a x).toNat < S100000.size a)
instance k0_chk163.dec : ∀ (v478 : IVec S16 32), Decidable (k0_chk163 v478) := fun v478 => decidable_of_iff' _ (Iff.of_eq (k0_chk163.eq_1 v478))
theorem k0_idx163_inb : ∀ (v478 : IVec S16 32) (k0_hw163 : k0_chk163 v478), ∀ a x, ((![v478] : Fin 1 → IVec S16 32) a x).toNat < S100000.size a := fun v478 k0_hw163 => k0_hw163
def k0_off190 (k0_t17 : Fin k0_t17_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v480 : BitVec 32 := Scalar.addi v461 c32_i32_291
  let v481 : Index := Scalar.indexCast v480
  ![v481.toNat]

def k0_chk164 (v485 : IVec S16 32) : Prop :=
  (∀ a x, ((![v485] : Fin 1 → IVec S16 32) a x).toNat < S100000.size a)
instance k0_chk164.dec : ∀ (v485 : IVec S16 32), Decidable (k0_chk164 v485) := fun v485 => decidable_of_iff' _ (Iff.of_eq (k0_chk164.eq_1 v485))
theorem k0_idx164_inb : ∀ (v485 : IVec S16 32) (k0_hw164 : k0_chk164 v485), ∀ a x, ((![v485] : Fin 1 → IVec S16 32) a x).toNat < S100000.size a := fun v485 k0_hw164 => k0_hw164
def k0_off191 (k0_t17 : Fin k0_t17_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v487 : BitVec 32 := Scalar.addi v461 c48_i32_292
  let v488 : Index := Scalar.indexCast v487
  ![v488.toNat]

def k0_chk165 (v492 : IVec S16 32) : Prop :=
  (∀ a x, ((![v492] : Fin 1 → IVec S16 32) a x).toNat < S100000.size a)
instance k0_chk165.dec : ∀ (v492 : IVec S16 32), Decidable (k0_chk165 v492) := fun v492 => decidable_of_iff' _ (Iff.of_eq (k0_chk165.eq_1 v492))
theorem k0_idx165_inb : ∀ (v492 : IVec S16 32) (k0_hw165 : k0_chk165 v492), ∀ a x, ((![v492] : Fin 1 → IVec S16 32) a x).toNat < S100000.size a := fun v492 k0_hw165 => k0_hw165
def k0_off192 (k0_t17 : Fin k0_t17_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v494 : BitVec 32 := Scalar.addi v461 c64_i32_293
  let v495 : Index := Scalar.indexCast v494
  ![v495.toNat]

def k0_chk166 (v499 : IVec S16 32) : Prop :=
  (∀ a x, ((![v499] : Fin 1 → IVec S16 32) a x).toNat < S100000.size a)
instance k0_chk166.dec : ∀ (v499 : IVec S16 32), Decidable (k0_chk166 v499) := fun v499 => decidable_of_iff' _ (Iff.of_eq (k0_chk166.eq_1 v499))
theorem k0_idx166_inb : ∀ (v499 : IVec S16 32) (k0_hw166 : k0_chk166 v499), ∀ a x, ((![v499] : Fin 1 → IVec S16 32) a x).toNat < S100000.size a := fun v499 k0_hw166 => k0_hw166
def k0_off193 (k0_t17 : Fin k0_t17_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v501 : BitVec 32 := Scalar.addi v461 c80_i32_294
  let v502 : Index := Scalar.indexCast v501
  ![v502.toNat]

def k0_chk167 (v506 : IVec S16 32) : Prop :=
  (∀ a x, ((![v506] : Fin 1 → IVec S16 32) a x).toNat < S100000.size a)
instance k0_chk167.dec : ∀ (v506 : IVec S16 32), Decidable (k0_chk167 v506) := fun v506 => decidable_of_iff' _ (Iff.of_eq (k0_chk167.eq_1 v506))
theorem k0_idx167_inb : ∀ (v506 : IVec S16 32) (k0_hw167 : k0_chk167 v506), ∀ a x, ((![v506] : Fin 1 → IVec S16 32) a x).toNat < S100000.size a := fun v506 k0_hw167 => k0_hw167
def k0_off194 (k0_t17 : Fin k0_t17_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v508 : BitVec 32 := Scalar.addi v461 c96_i32_295
  let v509 : Index := Scalar.indexCast v508
  ![v509.toNat]

def k0_chk168 (v513 : IVec S16 32) : Prop :=
  (∀ a x, ((![v513] : Fin 1 → IVec S16 32) a x).toNat < S100000.size a)
instance k0_chk168.dec : ∀ (v513 : IVec S16 32), Decidable (k0_chk168 v513) := fun v513 => decidable_of_iff' _ (Iff.of_eq (k0_chk168.eq_1 v513))
theorem k0_idx168_inb : ∀ (v513 : IVec S16 32) (k0_hw168 : k0_chk168 v513), ∀ a x, ((![v513] : Fin 1 → IVec S16 32) a x).toNat < S100000.size a := fun v513 k0_hw168 => k0_hw168
def k0_off195 (k0_t17 : Fin k0_t17_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v515 : BitVec 32 := Scalar.addi v461 c112_i32_296
  let v516 : Index := Scalar.indexCast v515
  ![v516.toNat]

def k0_chk169 (v520 : IVec S16 32) : Prop :=
  (∀ a x, ((![v520] : Fin 1 → IVec S16 32) a x).toNat < S100000.size a)
instance k0_chk169.dec : ∀ (v520 : IVec S16 32), Decidable (k0_chk169 v520) := fun v520 => decidable_of_iff' _ (Iff.of_eq (k0_chk169.eq_1 v520))
theorem k0_idx169_inb : ∀ (v520 : IVec S16 32) (k0_hw169 : k0_chk169 v520), ∀ a x, ((![v520] : Fin 1 → IVec S16 32) a x).toNat < S100000.size a := fun v520 k0_hw169 => k0_hw169
def k0_off196 (k0_t17 : Fin k0_t17_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v522 : BitVec 32 := Scalar.addi v461 c128_i32_297
  let v523 : Index := Scalar.indexCast v522
  ![v523.toNat]

def k0_chk170 (v527 : IVec S16 32) : Prop :=
  (∀ a x, ((![v527] : Fin 1 → IVec S16 32) a x).toNat < S100000.size a)
instance k0_chk170.dec : ∀ (v527 : IVec S16 32), Decidable (k0_chk170 v527) := fun v527 => decidable_of_iff' _ (Iff.of_eq (k0_chk170.eq_1 v527))
theorem k0_idx170_inb : ∀ (v527 : IVec S16 32) (k0_hw170 : k0_chk170 v527), ∀ a x, ((![v527] : Fin 1 → IVec S16 32) a x).toNat < S100000.size a := fun v527 k0_hw170 => k0_hw170
def k0_off197 (k0_t17 : Fin k0_t17_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v529 : BitVec 32 := Scalar.addi v461 c144_i32_299
  let v530 : Index := Scalar.indexCast v529
  ![v530.toNat]

def k0_chk171 (v534 : IVec S16 32) : Prop :=
  (∀ a x, ((![v534] : Fin 1 → IVec S16 32) a x).toNat < S100000.size a)
instance k0_chk171.dec : ∀ (v534 : IVec S16 32), Decidable (k0_chk171 v534) := fun v534 => decidable_of_iff' _ (Iff.of_eq (k0_chk171.eq_1 v534))
theorem k0_idx171_inb : ∀ (v534 : IVec S16 32) (k0_hw171 : k0_chk171 v534), ∀ a x, ((![v534] : Fin 1 → IVec S16 32) a x).toNat < S100000.size a := fun v534 k0_hw171 => k0_hw171
def k0_off198 (k0_t17 : Fin k0_t17_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v536 : BitVec 32 := Scalar.addi v461 c160_i32_300
  let v537 : Index := Scalar.indexCast v536
  ![v537.toNat]

def k0_chk172 (v541 : IVec S16 32) : Prop :=
  (∀ a x, ((![v541] : Fin 1 → IVec S16 32) a x).toNat < S100000.size a)
instance k0_chk172.dec : ∀ (v541 : IVec S16 32), Decidable (k0_chk172 v541) := fun v541 => decidable_of_iff' _ (Iff.of_eq (k0_chk172.eq_1 v541))
theorem k0_idx172_inb : ∀ (v541 : IVec S16 32) (k0_hw172 : k0_chk172 v541), ∀ a x, ((![v541] : Fin 1 → IVec S16 32) a x).toNat < S100000.size a := fun v541 k0_hw172 => k0_hw172
def k0_off199 (k0_t17 : Fin k0_t17_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v543 : BitVec 32 := Scalar.addi v461 c176_i32_301
  let v544 : Index := Scalar.indexCast v543
  ![v544.toNat]

def k0_chk173 (v548 : IVec S16 32) : Prop :=
  (∀ a x, ((![v548] : Fin 1 → IVec S16 32) a x).toNat < S100000.size a)
instance k0_chk173.dec : ∀ (v548 : IVec S16 32), Decidable (k0_chk173 v548) := fun v548 => decidable_of_iff' _ (Iff.of_eq (k0_chk173.eq_1 v548))
theorem k0_idx173_inb : ∀ (v548 : IVec S16 32) (k0_hw173 : k0_chk173 v548), ∀ a x, ((![v548] : Fin 1 → IVec S16 32) a x).toNat < S100000.size a := fun v548 k0_hw173 => k0_hw173
def k0_off200 (k0_t17 : Fin k0_t17_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v550 : BitVec 32 := Scalar.addi v461 c192_i32_302
  let v551 : Index := Scalar.indexCast v550
  ![v551.toNat]

def k0_chk174 (v555 : IVec S16 32) : Prop :=
  (∀ a x, ((![v555] : Fin 1 → IVec S16 32) a x).toNat < S100000.size a)
instance k0_chk174.dec : ∀ (v555 : IVec S16 32), Decidable (k0_chk174 v555) := fun v555 => decidable_of_iff' _ (Iff.of_eq (k0_chk174.eq_1 v555))
theorem k0_idx174_inb : ∀ (v555 : IVec S16 32) (k0_hw174 : k0_chk174 v555), ∀ a x, ((![v555] : Fin 1 → IVec S16 32) a x).toNat < S100000.size a := fun v555 k0_hw174 => k0_hw174
def k0_off201 (k0_t17 : Fin k0_t17_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v557 : BitVec 32 := Scalar.addi v461 c208_i32_303
  let v558 : Index := Scalar.indexCast v557
  ![v558.toNat]

def k0_chk175 (v562 : IVec S16 32) : Prop :=
  (∀ a x, ((![v562] : Fin 1 → IVec S16 32) a x).toNat < S100000.size a)
instance k0_chk175.dec : ∀ (v562 : IVec S16 32), Decidable (k0_chk175 v562) := fun v562 => decidable_of_iff' _ (Iff.of_eq (k0_chk175.eq_1 v562))
theorem k0_idx175_inb : ∀ (v562 : IVec S16 32) (k0_hw175 : k0_chk175 v562), ∀ a x, ((![v562] : Fin 1 → IVec S16 32) a x).toNat < S100000.size a := fun v562 k0_hw175 => k0_hw175
def k0_off202 (k0_t17 : Fin k0_t17_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let v564 : BitVec 32 := Scalar.addi v461 c224_i32_304
  let v565 : Index := Scalar.indexCast v564
  ![v565.toNat]

def k0_chk176 (v569 : IVec S16 32) : Prop :=
  (∀ a x, ((![v569] : Fin 1 → IVec S16 32) a x).toNat < S100000.size a)
instance k0_chk176.dec : ∀ (v569 : IVec S16 32), Decidable (k0_chk176 v569) := fun v569 => decidable_of_iff' _ (Iff.of_eq (k0_chk176.eq_1 v569))
theorem k0_idx176_inb : ∀ (v569 : IVec S16 32) (k0_hw176 : k0_chk176 v569), ∀ a x, ((![v569] : Fin 1 → IVec S16 32) a x).toNat < S100000.size a := fun v569 k0_hw176 => k0_hw176
def k0_off203 (k0_t17 : Fin k0_t17_loop.trips) : Fin 1 → Nat :=
  let c0_i32_275 : BitVec 32 := 0#32
  let c1_i32_277 : BitVec 32 := 1#32
  let arg36 : BitVec 32 := Scf.iv c0_i32_275 c1_i32_277 k0_t17
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off204 (i : grid0.Coords) (k0_t16 : Fin (k0_t16_loop i).trips) : Fin 2 → Nat :=
  let c72_i32_279 : BitVec 32 := 72#32
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c36_i32_38 : BitVec 32 := 36#32
  let c0_i32_37 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_36 : BitVec 32 := 72#32
  let v74 : BitVec 32 := Scalar.subi v38 c72_i32_36
  let v75 : BitVec 32 := Scalar.maxsi c0_i32_37 v74
  let v76 : BitVec 32 := Scalar.minsi c36_i32_38 v75
  let v80 : BitVec 32 := Scalar.subi v76 v73
  let c1_i32_41 : BitVec 32 := 1#32
  let v82 : BitVec 32 := Scalar.divsi v80 c1_i32_41
  let v83 : BitVec 32 := Scalar.muli v82 c1_i32_41
  let v84 : BitVec 32 := Scalar.addi v73 v83
  let c1_i32_43 : BitVec 32 := 1#32
  let arg34 : BitVec 32 := Scf.iv v84 c1_i32_43 k0_t16
  let v457 : BitVec 32 := Scalar.addi c72_i32_279 arg34
  let c0_i32_287_r22 : BitVec 32 := 0#32
  ![v457.toNat, 0]
@[reducible] def k0_t18_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off205 (k0_t18 : Fin k0_t18_loop.trips) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk177 (v464 : IVec S16 32) : Prop :=
  (∀ a x, ((![v464] : Fin 1 → IVec S16 32) a x).toNat < S100000.size a)
instance k0_chk177.dec : ∀ (v464 : IVec S16 32), Decidable (k0_chk177 v464) := fun v464 => decidable_of_iff' _ (Iff.of_eq (k0_chk177.eq_1 v464))
theorem k0_idx177_inb : ∀ (v464 : IVec S16 32) (k0_hw177 : k0_chk177 v464), ∀ a x, ((![v464] : Fin 1 → IVec S16 32) a x).toNat < S100000.size a := fun v464 k0_hw177 => k0_hw177
def k0_off206 (k0_t18 : Fin k0_t18_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v466 : BitVec 32 := Scalar.addi v461 c0_i32_288
  let v467 : Index := Scalar.indexCast v466
  ![v467.toNat]

def k0_chk178 (v471 : IVec S16 32) : Prop :=
  (∀ a x, ((![v471] : Fin 1 → IVec S16 32) a x).toNat < S100000.size a)
instance k0_chk178.dec : ∀ (v471 : IVec S16 32), Decidable (k0_chk178 v471) := fun v471 => decidable_of_iff' _ (Iff.of_eq (k0_chk178.eq_1 v471))
theorem k0_idx178_inb : ∀ (v471 : IVec S16 32) (k0_hw178 : k0_chk178 v471), ∀ a x, ((![v471] : Fin 1 → IVec S16 32) a x).toNat < S100000.size a := fun v471 k0_hw178 => k0_hw178
def k0_off207 (k0_t18 : Fin k0_t18_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v473 : BitVec 32 := Scalar.addi v461 c16_i32_289
  let v474 : Index := Scalar.indexCast v473
  ![v474.toNat]

def k0_chk179 (v478 : IVec S16 32) : Prop :=
  (∀ a x, ((![v478] : Fin 1 → IVec S16 32) a x).toNat < S100000.size a)
instance k0_chk179.dec : ∀ (v478 : IVec S16 32), Decidable (k0_chk179 v478) := fun v478 => decidable_of_iff' _ (Iff.of_eq (k0_chk179.eq_1 v478))
theorem k0_idx179_inb : ∀ (v478 : IVec S16 32) (k0_hw179 : k0_chk179 v478), ∀ a x, ((![v478] : Fin 1 → IVec S16 32) a x).toNat < S100000.size a := fun v478 k0_hw179 => k0_hw179
def k0_off208 (k0_t18 : Fin k0_t18_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v480 : BitVec 32 := Scalar.addi v461 c32_i32_291
  let v481 : Index := Scalar.indexCast v480
  ![v481.toNat]

def k0_chk180 (v485 : IVec S16 32) : Prop :=
  (∀ a x, ((![v485] : Fin 1 → IVec S16 32) a x).toNat < S100000.size a)
instance k0_chk180.dec : ∀ (v485 : IVec S16 32), Decidable (k0_chk180 v485) := fun v485 => decidable_of_iff' _ (Iff.of_eq (k0_chk180.eq_1 v485))
theorem k0_idx180_inb : ∀ (v485 : IVec S16 32) (k0_hw180 : k0_chk180 v485), ∀ a x, ((![v485] : Fin 1 → IVec S16 32) a x).toNat < S100000.size a := fun v485 k0_hw180 => k0_hw180
def k0_off209 (k0_t18 : Fin k0_t18_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v487 : BitVec 32 := Scalar.addi v461 c48_i32_292
  let v488 : Index := Scalar.indexCast v487
  ![v488.toNat]

def k0_chk181 (v492 : IVec S16 32) : Prop :=
  (∀ a x, ((![v492] : Fin 1 → IVec S16 32) a x).toNat < S100000.size a)
instance k0_chk181.dec : ∀ (v492 : IVec S16 32), Decidable (k0_chk181 v492) := fun v492 => decidable_of_iff' _ (Iff.of_eq (k0_chk181.eq_1 v492))
theorem k0_idx181_inb : ∀ (v492 : IVec S16 32) (k0_hw181 : k0_chk181 v492), ∀ a x, ((![v492] : Fin 1 → IVec S16 32) a x).toNat < S100000.size a := fun v492 k0_hw181 => k0_hw181
def k0_off210 (k0_t18 : Fin k0_t18_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v494 : BitVec 32 := Scalar.addi v461 c64_i32_293
  let v495 : Index := Scalar.indexCast v494
  ![v495.toNat]

def k0_chk182 (v499 : IVec S16 32) : Prop :=
  (∀ a x, ((![v499] : Fin 1 → IVec S16 32) a x).toNat < S100000.size a)
instance k0_chk182.dec : ∀ (v499 : IVec S16 32), Decidable (k0_chk182 v499) := fun v499 => decidable_of_iff' _ (Iff.of_eq (k0_chk182.eq_1 v499))
theorem k0_idx182_inb : ∀ (v499 : IVec S16 32) (k0_hw182 : k0_chk182 v499), ∀ a x, ((![v499] : Fin 1 → IVec S16 32) a x).toNat < S100000.size a := fun v499 k0_hw182 => k0_hw182
def k0_off211 (k0_t18 : Fin k0_t18_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v501 : BitVec 32 := Scalar.addi v461 c80_i32_294
  let v502 : Index := Scalar.indexCast v501
  ![v502.toNat]

def k0_chk183 (v506 : IVec S16 32) : Prop :=
  (∀ a x, ((![v506] : Fin 1 → IVec S16 32) a x).toNat < S100000.size a)
instance k0_chk183.dec : ∀ (v506 : IVec S16 32), Decidable (k0_chk183 v506) := fun v506 => decidable_of_iff' _ (Iff.of_eq (k0_chk183.eq_1 v506))
theorem k0_idx183_inb : ∀ (v506 : IVec S16 32) (k0_hw183 : k0_chk183 v506), ∀ a x, ((![v506] : Fin 1 → IVec S16 32) a x).toNat < S100000.size a := fun v506 k0_hw183 => k0_hw183
def k0_off212 (k0_t18 : Fin k0_t18_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v508 : BitVec 32 := Scalar.addi v461 c96_i32_295
  let v509 : Index := Scalar.indexCast v508
  ![v509.toNat]

def k0_chk184 (v513 : IVec S16 32) : Prop :=
  (∀ a x, ((![v513] : Fin 1 → IVec S16 32) a x).toNat < S100000.size a)
instance k0_chk184.dec : ∀ (v513 : IVec S16 32), Decidable (k0_chk184 v513) := fun v513 => decidable_of_iff' _ (Iff.of_eq (k0_chk184.eq_1 v513))
theorem k0_idx184_inb : ∀ (v513 : IVec S16 32) (k0_hw184 : k0_chk184 v513), ∀ a x, ((![v513] : Fin 1 → IVec S16 32) a x).toNat < S100000.size a := fun v513 k0_hw184 => k0_hw184
def k0_off213 (k0_t18 : Fin k0_t18_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v515 : BitVec 32 := Scalar.addi v461 c112_i32_296
  let v516 : Index := Scalar.indexCast v515
  ![v516.toNat]

def k0_chk185 (v520 : IVec S16 32) : Prop :=
  (∀ a x, ((![v520] : Fin 1 → IVec S16 32) a x).toNat < S100000.size a)
instance k0_chk185.dec : ∀ (v520 : IVec S16 32), Decidable (k0_chk185 v520) := fun v520 => decidable_of_iff' _ (Iff.of_eq (k0_chk185.eq_1 v520))
theorem k0_idx185_inb : ∀ (v520 : IVec S16 32) (k0_hw185 : k0_chk185 v520), ∀ a x, ((![v520] : Fin 1 → IVec S16 32) a x).toNat < S100000.size a := fun v520 k0_hw185 => k0_hw185
def k0_off214 (k0_t18 : Fin k0_t18_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v522 : BitVec 32 := Scalar.addi v461 c128_i32_297
  let v523 : Index := Scalar.indexCast v522
  ![v523.toNat]

def k0_chk186 (v527 : IVec S16 32) : Prop :=
  (∀ a x, ((![v527] : Fin 1 → IVec S16 32) a x).toNat < S100000.size a)
instance k0_chk186.dec : ∀ (v527 : IVec S16 32), Decidable (k0_chk186 v527) := fun v527 => decidable_of_iff' _ (Iff.of_eq (k0_chk186.eq_1 v527))
theorem k0_idx186_inb : ∀ (v527 : IVec S16 32) (k0_hw186 : k0_chk186 v527), ∀ a x, ((![v527] : Fin 1 → IVec S16 32) a x).toNat < S100000.size a := fun v527 k0_hw186 => k0_hw186
def k0_off215 (k0_t18 : Fin k0_t18_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v529 : BitVec 32 := Scalar.addi v461 c144_i32_299
  let v530 : Index := Scalar.indexCast v529
  ![v530.toNat]

def k0_chk187 (v534 : IVec S16 32) : Prop :=
  (∀ a x, ((![v534] : Fin 1 → IVec S16 32) a x).toNat < S100000.size a)
instance k0_chk187.dec : ∀ (v534 : IVec S16 32), Decidable (k0_chk187 v534) := fun v534 => decidable_of_iff' _ (Iff.of_eq (k0_chk187.eq_1 v534))
theorem k0_idx187_inb : ∀ (v534 : IVec S16 32) (k0_hw187 : k0_chk187 v534), ∀ a x, ((![v534] : Fin 1 → IVec S16 32) a x).toNat < S100000.size a := fun v534 k0_hw187 => k0_hw187
def k0_off216 (k0_t18 : Fin k0_t18_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v536 : BitVec 32 := Scalar.addi v461 c160_i32_300
  let v537 : Index := Scalar.indexCast v536
  ![v537.toNat]

def k0_chk188 (v541 : IVec S16 32) : Prop :=
  (∀ a x, ((![v541] : Fin 1 → IVec S16 32) a x).toNat < S100000.size a)
instance k0_chk188.dec : ∀ (v541 : IVec S16 32), Decidable (k0_chk188 v541) := fun v541 => decidable_of_iff' _ (Iff.of_eq (k0_chk188.eq_1 v541))
theorem k0_idx188_inb : ∀ (v541 : IVec S16 32) (k0_hw188 : k0_chk188 v541), ∀ a x, ((![v541] : Fin 1 → IVec S16 32) a x).toNat < S100000.size a := fun v541 k0_hw188 => k0_hw188
def k0_off217 (k0_t18 : Fin k0_t18_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v543 : BitVec 32 := Scalar.addi v461 c176_i32_301
  let v544 : Index := Scalar.indexCast v543
  ![v544.toNat]

def k0_chk189 (v548 : IVec S16 32) : Prop :=
  (∀ a x, ((![v548] : Fin 1 → IVec S16 32) a x).toNat < S100000.size a)
instance k0_chk189.dec : ∀ (v548 : IVec S16 32), Decidable (k0_chk189 v548) := fun v548 => decidable_of_iff' _ (Iff.of_eq (k0_chk189.eq_1 v548))
theorem k0_idx189_inb : ∀ (v548 : IVec S16 32) (k0_hw189 : k0_chk189 v548), ∀ a x, ((![v548] : Fin 1 → IVec S16 32) a x).toNat < S100000.size a := fun v548 k0_hw189 => k0_hw189
def k0_off218 (k0_t18 : Fin k0_t18_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v550 : BitVec 32 := Scalar.addi v461 c192_i32_302
  let v551 : Index := Scalar.indexCast v550
  ![v551.toNat]

def k0_chk190 (v555 : IVec S16 32) : Prop :=
  (∀ a x, ((![v555] : Fin 1 → IVec S16 32) a x).toNat < S100000.size a)
instance k0_chk190.dec : ∀ (v555 : IVec S16 32), Decidable (k0_chk190 v555) := fun v555 => decidable_of_iff' _ (Iff.of_eq (k0_chk190.eq_1 v555))
theorem k0_idx190_inb : ∀ (v555 : IVec S16 32) (k0_hw190 : k0_chk190 v555), ∀ a x, ((![v555] : Fin 1 → IVec S16 32) a x).toNat < S100000.size a := fun v555 k0_hw190 => k0_hw190
def k0_off219 (k0_t18 : Fin k0_t18_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v557 : BitVec 32 := Scalar.addi v461 c208_i32_303
  let v558 : Index := Scalar.indexCast v557
  ![v558.toNat]

def k0_chk191 (v562 : IVec S16 32) : Prop :=
  (∀ a x, ((![v562] : Fin 1 → IVec S16 32) a x).toNat < S100000.size a)
instance k0_chk191.dec : ∀ (v562 : IVec S16 32), Decidable (k0_chk191 v562) := fun v562 => decidable_of_iff' _ (Iff.of_eq (k0_chk191.eq_1 v562))
theorem k0_idx191_inb : ∀ (v562 : IVec S16 32) (k0_hw191 : k0_chk191 v562), ∀ a x, ((![v562] : Fin 1 → IVec S16 32) a x).toNat < S100000.size a := fun v562 k0_hw191 => k0_hw191
def k0_off220 (k0_t18 : Fin k0_t18_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let v564 : BitVec 32 := Scalar.addi v461 c224_i32_304
  let v565 : Index := Scalar.indexCast v564
  ![v565.toNat]

def k0_chk192 (v569 : IVec S16 32) : Prop :=
  (∀ a x, ((![v569] : Fin 1 → IVec S16 32) a x).toNat < S100000.size a)
instance k0_chk192.dec : ∀ (v569 : IVec S16 32), Decidable (k0_chk192 v569) := fun v569 => decidable_of_iff' _ (Iff.of_eq (k0_chk192.eq_1 v569))
theorem k0_idx192_inb : ∀ (v569 : IVec S16 32) (k0_hw192 : k0_chk192 v569), ∀ a x, ((![v569] : Fin 1 → IVec S16 32) a x).toNat < S100000.size a := fun v569 k0_hw192 => k0_hw192
def k0_off221 (k0_t18 : Fin k0_t18_loop.trips) : Fin 1 → Nat :=
  let c0_i32_281 : BitVec 32 := 0#32
  let c1_i32_283 : BitVec 32 := 1#32
  let arg36 : BitVec 32 := Scf.iv c0_i32_281 c1_i32_283 k0_t18
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off222 (i : grid0.Coords) (k0_t16 : Fin (k0_t16_loop i).trips) : Fin 2 → Nat :=
  let c72_i32_285 : BitVec 32 := 72#32
  let c36_i32_35 : BitVec 32 := 36#32
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c72_i32 : BitVec 32 := 72#32
  let v71 : BitVec 32 := Scalar.subi v19 c72_i32
  let v72 : BitVec 32 := Scalar.maxsi c0_i32_34 v71
  let v73 : BitVec 32 := Scalar.minsi c36_i32_35 v72
  let c36_i32_38 : BitVec 32 := 36#32
  let c0_i32_37 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c72_i32_36 : BitVec 32 := 72#32
  let v74 : BitVec 32 := Scalar.subi v38 c72_i32_36
  let v75 : BitVec 32 := Scalar.maxsi c0_i32_37 v74
  let v76 : BitVec 32 := Scalar.minsi c36_i32_38 v75
  let v80 : BitVec 32 := Scalar.subi v76 v73
  let c1_i32_41 : BitVec 32 := 1#32
  let v82 : BitVec 32 := Scalar.divsi v80 c1_i32_41
  let v83 : BitVec 32 := Scalar.muli v82 c1_i32_41
  let v84 : BitVec 32 := Scalar.addi v73 v83
  let c1_i32_43 : BitVec 32 := 1#32
  let arg34 : BitVec 32 := Scf.iv v84 c1_i32_43 k0_t16
  let v460 : BitVec 32 := Scalar.addi c72_i32_285 arg34
  let c8192_i32_r23 : BitVec 32 := 8192#32
  ![v460.toNat, 8192]
@[reducible] def k0_t19_loop (i : grid0.Coords) : Scf.Loop 32 :=
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c36_i32_48 : BitVec 32 := 36#32
  let c0_i32_47 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c108_i32_46 : BitVec 32 := 108#32
  let v90 : BitVec 32 := Scalar.subi v38 c108_i32_46
  let v91 : BitVec 32 := Scalar.maxsi c0_i32_47 v90
  let v92 : BitVec 32 := Scalar.minsi c36_i32_48 v91
  let v96 : BitVec 32 := Scalar.subi v92 v89
  let c1_i32_51 : BitVec 32 := 1#32
  let v98 : BitVec 32 := Scalar.divsi v96 c1_i32_51
  let v99 : BitVec 32 := Scalar.muli v98 c1_i32_51
  let v100 : BitVec 32 := Scalar.addi v89 v99
  let c1_i32_52 : BitVec 32 := 1#32
  ⟨v89, v100, c1_i32_52⟩
def k0_off223 (i : grid0.Coords) (k0_t19 : Fin (k0_t19_loop i).trips) : Fin 2 → Nat :=
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c1_i32_52 : BitVec 32 := 1#32
  let arg34 : BitVec 32 := Scf.iv v89 c1_i32_52 k0_t19
  let c0_i32_287_r26 : BitVec 32 := 0#32
  ![arg34.toNat, 0]
@[reducible] def k0_t20_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off224 (k0_t20 : Fin k0_t20_loop.trips) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk193 (v464 : IVec S16 32) : Prop :=
  (∀ a x, ((![v464] : Fin 1 → IVec S16 32) a x).toNat < S100000.size a)
instance k0_chk193.dec : ∀ (v464 : IVec S16 32), Decidable (k0_chk193 v464) := fun v464 => decidable_of_iff' _ (Iff.of_eq (k0_chk193.eq_1 v464))
theorem k0_idx193_inb : ∀ (v464 : IVec S16 32) (k0_hw193 : k0_chk193 v464), ∀ a x, ((![v464] : Fin 1 → IVec S16 32) a x).toNat < S100000.size a := fun v464 k0_hw193 => k0_hw193
def k0_off225 (k0_t20 : Fin k0_t20_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v466 : BitVec 32 := Scalar.addi v461 c0_i32_288
  let v467 : Index := Scalar.indexCast v466
  ![v467.toNat]

def k0_chk194 (v471 : IVec S16 32) : Prop :=
  (∀ a x, ((![v471] : Fin 1 → IVec S16 32) a x).toNat < S100000.size a)
instance k0_chk194.dec : ∀ (v471 : IVec S16 32), Decidable (k0_chk194 v471) := fun v471 => decidable_of_iff' _ (Iff.of_eq (k0_chk194.eq_1 v471))
theorem k0_idx194_inb : ∀ (v471 : IVec S16 32) (k0_hw194 : k0_chk194 v471), ∀ a x, ((![v471] : Fin 1 → IVec S16 32) a x).toNat < S100000.size a := fun v471 k0_hw194 => k0_hw194
def k0_off226 (k0_t20 : Fin k0_t20_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v473 : BitVec 32 := Scalar.addi v461 c16_i32_289
  let v474 : Index := Scalar.indexCast v473
  ![v474.toNat]

def k0_chk195 (v478 : IVec S16 32) : Prop :=
  (∀ a x, ((![v478] : Fin 1 → IVec S16 32) a x).toNat < S100000.size a)
instance k0_chk195.dec : ∀ (v478 : IVec S16 32), Decidable (k0_chk195 v478) := fun v478 => decidable_of_iff' _ (Iff.of_eq (k0_chk195.eq_1 v478))
theorem k0_idx195_inb : ∀ (v478 : IVec S16 32) (k0_hw195 : k0_chk195 v478), ∀ a x, ((![v478] : Fin 1 → IVec S16 32) a x).toNat < S100000.size a := fun v478 k0_hw195 => k0_hw195
def k0_off227 (k0_t20 : Fin k0_t20_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v480 : BitVec 32 := Scalar.addi v461 c32_i32_291
  let v481 : Index := Scalar.indexCast v480
  ![v481.toNat]

def k0_chk196 (v485 : IVec S16 32) : Prop :=
  (∀ a x, ((![v485] : Fin 1 → IVec S16 32) a x).toNat < S100000.size a)
instance k0_chk196.dec : ∀ (v485 : IVec S16 32), Decidable (k0_chk196 v485) := fun v485 => decidable_of_iff' _ (Iff.of_eq (k0_chk196.eq_1 v485))
theorem k0_idx196_inb : ∀ (v485 : IVec S16 32) (k0_hw196 : k0_chk196 v485), ∀ a x, ((![v485] : Fin 1 → IVec S16 32) a x).toNat < S100000.size a := fun v485 k0_hw196 => k0_hw196
def k0_off228 (k0_t20 : Fin k0_t20_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v487 : BitVec 32 := Scalar.addi v461 c48_i32_292
  let v488 : Index := Scalar.indexCast v487
  ![v488.toNat]

def k0_chk197 (v492 : IVec S16 32) : Prop :=
  (∀ a x, ((![v492] : Fin 1 → IVec S16 32) a x).toNat < S100000.size a)
instance k0_chk197.dec : ∀ (v492 : IVec S16 32), Decidable (k0_chk197 v492) := fun v492 => decidable_of_iff' _ (Iff.of_eq (k0_chk197.eq_1 v492))
theorem k0_idx197_inb : ∀ (v492 : IVec S16 32) (k0_hw197 : k0_chk197 v492), ∀ a x, ((![v492] : Fin 1 → IVec S16 32) a x).toNat < S100000.size a := fun v492 k0_hw197 => k0_hw197
def k0_off229 (k0_t20 : Fin k0_t20_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v494 : BitVec 32 := Scalar.addi v461 c64_i32_293
  let v495 : Index := Scalar.indexCast v494
  ![v495.toNat]

def k0_chk198 (v499 : IVec S16 32) : Prop :=
  (∀ a x, ((![v499] : Fin 1 → IVec S16 32) a x).toNat < S100000.size a)
instance k0_chk198.dec : ∀ (v499 : IVec S16 32), Decidable (k0_chk198 v499) := fun v499 => decidable_of_iff' _ (Iff.of_eq (k0_chk198.eq_1 v499))
theorem k0_idx198_inb : ∀ (v499 : IVec S16 32) (k0_hw198 : k0_chk198 v499), ∀ a x, ((![v499] : Fin 1 → IVec S16 32) a x).toNat < S100000.size a := fun v499 k0_hw198 => k0_hw198
def k0_off230 (k0_t20 : Fin k0_t20_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v501 : BitVec 32 := Scalar.addi v461 c80_i32_294
  let v502 : Index := Scalar.indexCast v501
  ![v502.toNat]

def k0_chk199 (v506 : IVec S16 32) : Prop :=
  (∀ a x, ((![v506] : Fin 1 → IVec S16 32) a x).toNat < S100000.size a)
instance k0_chk199.dec : ∀ (v506 : IVec S16 32), Decidable (k0_chk199 v506) := fun v506 => decidable_of_iff' _ (Iff.of_eq (k0_chk199.eq_1 v506))
theorem k0_idx199_inb : ∀ (v506 : IVec S16 32) (k0_hw199 : k0_chk199 v506), ∀ a x, ((![v506] : Fin 1 → IVec S16 32) a x).toNat < S100000.size a := fun v506 k0_hw199 => k0_hw199
def k0_off231 (k0_t20 : Fin k0_t20_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v508 : BitVec 32 := Scalar.addi v461 c96_i32_295
  let v509 : Index := Scalar.indexCast v508
  ![v509.toNat]

def k0_chk200 (v513 : IVec S16 32) : Prop :=
  (∀ a x, ((![v513] : Fin 1 → IVec S16 32) a x).toNat < S100000.size a)
instance k0_chk200.dec : ∀ (v513 : IVec S16 32), Decidable (k0_chk200 v513) := fun v513 => decidable_of_iff' _ (Iff.of_eq (k0_chk200.eq_1 v513))
theorem k0_idx200_inb : ∀ (v513 : IVec S16 32) (k0_hw200 : k0_chk200 v513), ∀ a x, ((![v513] : Fin 1 → IVec S16 32) a x).toNat < S100000.size a := fun v513 k0_hw200 => k0_hw200
def k0_off232 (k0_t20 : Fin k0_t20_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v515 : BitVec 32 := Scalar.addi v461 c112_i32_296
  let v516 : Index := Scalar.indexCast v515
  ![v516.toNat]

def k0_chk201 (v520 : IVec S16 32) : Prop :=
  (∀ a x, ((![v520] : Fin 1 → IVec S16 32) a x).toNat < S100000.size a)
instance k0_chk201.dec : ∀ (v520 : IVec S16 32), Decidable (k0_chk201 v520) := fun v520 => decidable_of_iff' _ (Iff.of_eq (k0_chk201.eq_1 v520))
theorem k0_idx201_inb : ∀ (v520 : IVec S16 32) (k0_hw201 : k0_chk201 v520), ∀ a x, ((![v520] : Fin 1 → IVec S16 32) a x).toNat < S100000.size a := fun v520 k0_hw201 => k0_hw201
def k0_off233 (k0_t20 : Fin k0_t20_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v522 : BitVec 32 := Scalar.addi v461 c128_i32_297
  let v523 : Index := Scalar.indexCast v522
  ![v523.toNat]

def k0_chk202 (v527 : IVec S16 32) : Prop :=
  (∀ a x, ((![v527] : Fin 1 → IVec S16 32) a x).toNat < S100000.size a)
instance k0_chk202.dec : ∀ (v527 : IVec S16 32), Decidable (k0_chk202 v527) := fun v527 => decidable_of_iff' _ (Iff.of_eq (k0_chk202.eq_1 v527))
theorem k0_idx202_inb : ∀ (v527 : IVec S16 32) (k0_hw202 : k0_chk202 v527), ∀ a x, ((![v527] : Fin 1 → IVec S16 32) a x).toNat < S100000.size a := fun v527 k0_hw202 => k0_hw202
def k0_off234 (k0_t20 : Fin k0_t20_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v529 : BitVec 32 := Scalar.addi v461 c144_i32_299
  let v530 : Index := Scalar.indexCast v529
  ![v530.toNat]

def k0_chk203 (v534 : IVec S16 32) : Prop :=
  (∀ a x, ((![v534] : Fin 1 → IVec S16 32) a x).toNat < S100000.size a)
instance k0_chk203.dec : ∀ (v534 : IVec S16 32), Decidable (k0_chk203 v534) := fun v534 => decidable_of_iff' _ (Iff.of_eq (k0_chk203.eq_1 v534))
theorem k0_idx203_inb : ∀ (v534 : IVec S16 32) (k0_hw203 : k0_chk203 v534), ∀ a x, ((![v534] : Fin 1 → IVec S16 32) a x).toNat < S100000.size a := fun v534 k0_hw203 => k0_hw203
def k0_off235 (k0_t20 : Fin k0_t20_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v536 : BitVec 32 := Scalar.addi v461 c160_i32_300
  let v537 : Index := Scalar.indexCast v536
  ![v537.toNat]

def k0_chk204 (v541 : IVec S16 32) : Prop :=
  (∀ a x, ((![v541] : Fin 1 → IVec S16 32) a x).toNat < S100000.size a)
instance k0_chk204.dec : ∀ (v541 : IVec S16 32), Decidable (k0_chk204 v541) := fun v541 => decidable_of_iff' _ (Iff.of_eq (k0_chk204.eq_1 v541))
theorem k0_idx204_inb : ∀ (v541 : IVec S16 32) (k0_hw204 : k0_chk204 v541), ∀ a x, ((![v541] : Fin 1 → IVec S16 32) a x).toNat < S100000.size a := fun v541 k0_hw204 => k0_hw204
def k0_off236 (k0_t20 : Fin k0_t20_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v543 : BitVec 32 := Scalar.addi v461 c176_i32_301
  let v544 : Index := Scalar.indexCast v543
  ![v544.toNat]

def k0_chk205 (v548 : IVec S16 32) : Prop :=
  (∀ a x, ((![v548] : Fin 1 → IVec S16 32) a x).toNat < S100000.size a)
instance k0_chk205.dec : ∀ (v548 : IVec S16 32), Decidable (k0_chk205 v548) := fun v548 => decidable_of_iff' _ (Iff.of_eq (k0_chk205.eq_1 v548))
theorem k0_idx205_inb : ∀ (v548 : IVec S16 32) (k0_hw205 : k0_chk205 v548), ∀ a x, ((![v548] : Fin 1 → IVec S16 32) a x).toNat < S100000.size a := fun v548 k0_hw205 => k0_hw205
def k0_off237 (k0_t20 : Fin k0_t20_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v550 : BitVec 32 := Scalar.addi v461 c192_i32_302
  let v551 : Index := Scalar.indexCast v550
  ![v551.toNat]

def k0_chk206 (v555 : IVec S16 32) : Prop :=
  (∀ a x, ((![v555] : Fin 1 → IVec S16 32) a x).toNat < S100000.size a)
instance k0_chk206.dec : ∀ (v555 : IVec S16 32), Decidable (k0_chk206 v555) := fun v555 => decidable_of_iff' _ (Iff.of_eq (k0_chk206.eq_1 v555))
theorem k0_idx206_inb : ∀ (v555 : IVec S16 32) (k0_hw206 : k0_chk206 v555), ∀ a x, ((![v555] : Fin 1 → IVec S16 32) a x).toNat < S100000.size a := fun v555 k0_hw206 => k0_hw206
def k0_off238 (k0_t20 : Fin k0_t20_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v557 : BitVec 32 := Scalar.addi v461 c208_i32_303
  let v558 : Index := Scalar.indexCast v557
  ![v558.toNat]

def k0_chk207 (v562 : IVec S16 32) : Prop :=
  (∀ a x, ((![v562] : Fin 1 → IVec S16 32) a x).toNat < S100000.size a)
instance k0_chk207.dec : ∀ (v562 : IVec S16 32), Decidable (k0_chk207 v562) := fun v562 => decidable_of_iff' _ (Iff.of_eq (k0_chk207.eq_1 v562))
theorem k0_idx207_inb : ∀ (v562 : IVec S16 32) (k0_hw207 : k0_chk207 v562), ∀ a x, ((![v562] : Fin 1 → IVec S16 32) a x).toNat < S100000.size a := fun v562 k0_hw207 => k0_hw207
def k0_off239 (k0_t20 : Fin k0_t20_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let v564 : BitVec 32 := Scalar.addi v461 c224_i32_304
  let v565 : Index := Scalar.indexCast v564
  ![v565.toNat]

def k0_chk208 (v569 : IVec S16 32) : Prop :=
  (∀ a x, ((![v569] : Fin 1 → IVec S16 32) a x).toNat < S100000.size a)
instance k0_chk208.dec : ∀ (v569 : IVec S16 32), Decidable (k0_chk208 v569) := fun v569 => decidable_of_iff' _ (Iff.of_eq (k0_chk208.eq_1 v569))
theorem k0_idx208_inb : ∀ (v569 : IVec S16 32) (k0_hw208 : k0_chk208 v569), ∀ a x, ((![v569] : Fin 1 → IVec S16 32) a x).toNat < S100000.size a := fun v569 k0_hw208 => k0_hw208
def k0_off240 (k0_t20 : Fin k0_t20_loop.trips) : Fin 1 → Nat :=
  let c0_i32_275 : BitVec 32 := 0#32
  let c1_i32_277 : BitVec 32 := 1#32
  let arg36 : BitVec 32 := Scf.iv c0_i32_275 c1_i32_277 k0_t20
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off241 (i : grid0.Coords) (k0_t19 : Fin (k0_t19_loop i).trips) : Fin 2 → Nat :=
  let c108_i32_279 : BitVec 32 := 108#32
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c1_i32_52 : BitVec 32 := 1#32
  let arg34 : BitVec 32 := Scf.iv v89 c1_i32_52 k0_t19
  let v457 : BitVec 32 := Scalar.addi c108_i32_279 arg34
  let c0_i32_287_r27 : BitVec 32 := 0#32
  ![v457.toNat, 0]
@[reducible] def k0_t21_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off242 (k0_t21 : Fin k0_t21_loop.trips) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk209 (v464 : IVec S16 32) : Prop :=
  (∀ a x, ((![v464] : Fin 1 → IVec S16 32) a x).toNat < S100000.size a)
instance k0_chk209.dec : ∀ (v464 : IVec S16 32), Decidable (k0_chk209 v464) := fun v464 => decidable_of_iff' _ (Iff.of_eq (k0_chk209.eq_1 v464))
theorem k0_idx209_inb : ∀ (v464 : IVec S16 32) (k0_hw209 : k0_chk209 v464), ∀ a x, ((![v464] : Fin 1 → IVec S16 32) a x).toNat < S100000.size a := fun v464 k0_hw209 => k0_hw209
def k0_off243 (k0_t21 : Fin k0_t21_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v466 : BitVec 32 := Scalar.addi v461 c0_i32_288
  let v467 : Index := Scalar.indexCast v466
  ![v467.toNat]

def k0_chk210 (v471 : IVec S16 32) : Prop :=
  (∀ a x, ((![v471] : Fin 1 → IVec S16 32) a x).toNat < S100000.size a)
instance k0_chk210.dec : ∀ (v471 : IVec S16 32), Decidable (k0_chk210 v471) := fun v471 => decidable_of_iff' _ (Iff.of_eq (k0_chk210.eq_1 v471))
theorem k0_idx210_inb : ∀ (v471 : IVec S16 32) (k0_hw210 : k0_chk210 v471), ∀ a x, ((![v471] : Fin 1 → IVec S16 32) a x).toNat < S100000.size a := fun v471 k0_hw210 => k0_hw210
def k0_off244 (k0_t21 : Fin k0_t21_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v473 : BitVec 32 := Scalar.addi v461 c16_i32_289
  let v474 : Index := Scalar.indexCast v473
  ![v474.toNat]

def k0_chk211 (v478 : IVec S16 32) : Prop :=
  (∀ a x, ((![v478] : Fin 1 → IVec S16 32) a x).toNat < S100000.size a)
instance k0_chk211.dec : ∀ (v478 : IVec S16 32), Decidable (k0_chk211 v478) := fun v478 => decidable_of_iff' _ (Iff.of_eq (k0_chk211.eq_1 v478))
theorem k0_idx211_inb : ∀ (v478 : IVec S16 32) (k0_hw211 : k0_chk211 v478), ∀ a x, ((![v478] : Fin 1 → IVec S16 32) a x).toNat < S100000.size a := fun v478 k0_hw211 => k0_hw211
def k0_off245 (k0_t21 : Fin k0_t21_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v480 : BitVec 32 := Scalar.addi v461 c32_i32_291
  let v481 : Index := Scalar.indexCast v480
  ![v481.toNat]

def k0_chk212 (v485 : IVec S16 32) : Prop :=
  (∀ a x, ((![v485] : Fin 1 → IVec S16 32) a x).toNat < S100000.size a)
instance k0_chk212.dec : ∀ (v485 : IVec S16 32), Decidable (k0_chk212 v485) := fun v485 => decidable_of_iff' _ (Iff.of_eq (k0_chk212.eq_1 v485))
theorem k0_idx212_inb : ∀ (v485 : IVec S16 32) (k0_hw212 : k0_chk212 v485), ∀ a x, ((![v485] : Fin 1 → IVec S16 32) a x).toNat < S100000.size a := fun v485 k0_hw212 => k0_hw212
def k0_off246 (k0_t21 : Fin k0_t21_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v487 : BitVec 32 := Scalar.addi v461 c48_i32_292
  let v488 : Index := Scalar.indexCast v487
  ![v488.toNat]

def k0_chk213 (v492 : IVec S16 32) : Prop :=
  (∀ a x, ((![v492] : Fin 1 → IVec S16 32) a x).toNat < S100000.size a)
instance k0_chk213.dec : ∀ (v492 : IVec S16 32), Decidable (k0_chk213 v492) := fun v492 => decidable_of_iff' _ (Iff.of_eq (k0_chk213.eq_1 v492))
theorem k0_idx213_inb : ∀ (v492 : IVec S16 32) (k0_hw213 : k0_chk213 v492), ∀ a x, ((![v492] : Fin 1 → IVec S16 32) a x).toNat < S100000.size a := fun v492 k0_hw213 => k0_hw213
def k0_off247 (k0_t21 : Fin k0_t21_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v494 : BitVec 32 := Scalar.addi v461 c64_i32_293
  let v495 : Index := Scalar.indexCast v494
  ![v495.toNat]

def k0_chk214 (v499 : IVec S16 32) : Prop :=
  (∀ a x, ((![v499] : Fin 1 → IVec S16 32) a x).toNat < S100000.size a)
instance k0_chk214.dec : ∀ (v499 : IVec S16 32), Decidable (k0_chk214 v499) := fun v499 => decidable_of_iff' _ (Iff.of_eq (k0_chk214.eq_1 v499))
theorem k0_idx214_inb : ∀ (v499 : IVec S16 32) (k0_hw214 : k0_chk214 v499), ∀ a x, ((![v499] : Fin 1 → IVec S16 32) a x).toNat < S100000.size a := fun v499 k0_hw214 => k0_hw214
def k0_off248 (k0_t21 : Fin k0_t21_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v501 : BitVec 32 := Scalar.addi v461 c80_i32_294
  let v502 : Index := Scalar.indexCast v501
  ![v502.toNat]

def k0_chk215 (v506 : IVec S16 32) : Prop :=
  (∀ a x, ((![v506] : Fin 1 → IVec S16 32) a x).toNat < S100000.size a)
instance k0_chk215.dec : ∀ (v506 : IVec S16 32), Decidable (k0_chk215 v506) := fun v506 => decidable_of_iff' _ (Iff.of_eq (k0_chk215.eq_1 v506))
theorem k0_idx215_inb : ∀ (v506 : IVec S16 32) (k0_hw215 : k0_chk215 v506), ∀ a x, ((![v506] : Fin 1 → IVec S16 32) a x).toNat < S100000.size a := fun v506 k0_hw215 => k0_hw215
def k0_off249 (k0_t21 : Fin k0_t21_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v508 : BitVec 32 := Scalar.addi v461 c96_i32_295
  let v509 : Index := Scalar.indexCast v508
  ![v509.toNat]

def k0_chk216 (v513 : IVec S16 32) : Prop :=
  (∀ a x, ((![v513] : Fin 1 → IVec S16 32) a x).toNat < S100000.size a)
instance k0_chk216.dec : ∀ (v513 : IVec S16 32), Decidable (k0_chk216 v513) := fun v513 => decidable_of_iff' _ (Iff.of_eq (k0_chk216.eq_1 v513))
theorem k0_idx216_inb : ∀ (v513 : IVec S16 32) (k0_hw216 : k0_chk216 v513), ∀ a x, ((![v513] : Fin 1 → IVec S16 32) a x).toNat < S100000.size a := fun v513 k0_hw216 => k0_hw216
def k0_off250 (k0_t21 : Fin k0_t21_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v515 : BitVec 32 := Scalar.addi v461 c112_i32_296
  let v516 : Index := Scalar.indexCast v515
  ![v516.toNat]

def k0_chk217 (v520 : IVec S16 32) : Prop :=
  (∀ a x, ((![v520] : Fin 1 → IVec S16 32) a x).toNat < S100000.size a)
instance k0_chk217.dec : ∀ (v520 : IVec S16 32), Decidable (k0_chk217 v520) := fun v520 => decidable_of_iff' _ (Iff.of_eq (k0_chk217.eq_1 v520))
theorem k0_idx217_inb : ∀ (v520 : IVec S16 32) (k0_hw217 : k0_chk217 v520), ∀ a x, ((![v520] : Fin 1 → IVec S16 32) a x).toNat < S100000.size a := fun v520 k0_hw217 => k0_hw217
def k0_off251 (k0_t21 : Fin k0_t21_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v522 : BitVec 32 := Scalar.addi v461 c128_i32_297
  let v523 : Index := Scalar.indexCast v522
  ![v523.toNat]

def k0_chk218 (v527 : IVec S16 32) : Prop :=
  (∀ a x, ((![v527] : Fin 1 → IVec S16 32) a x).toNat < S100000.size a)
instance k0_chk218.dec : ∀ (v527 : IVec S16 32), Decidable (k0_chk218 v527) := fun v527 => decidable_of_iff' _ (Iff.of_eq (k0_chk218.eq_1 v527))
theorem k0_idx218_inb : ∀ (v527 : IVec S16 32) (k0_hw218 : k0_chk218 v527), ∀ a x, ((![v527] : Fin 1 → IVec S16 32) a x).toNat < S100000.size a := fun v527 k0_hw218 => k0_hw218
def k0_off252 (k0_t21 : Fin k0_t21_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v529 : BitVec 32 := Scalar.addi v461 c144_i32_299
  let v530 : Index := Scalar.indexCast v529
  ![v530.toNat]

def k0_chk219 (v534 : IVec S16 32) : Prop :=
  (∀ a x, ((![v534] : Fin 1 → IVec S16 32) a x).toNat < S100000.size a)
instance k0_chk219.dec : ∀ (v534 : IVec S16 32), Decidable (k0_chk219 v534) := fun v534 => decidable_of_iff' _ (Iff.of_eq (k0_chk219.eq_1 v534))
theorem k0_idx219_inb : ∀ (v534 : IVec S16 32) (k0_hw219 : k0_chk219 v534), ∀ a x, ((![v534] : Fin 1 → IVec S16 32) a x).toNat < S100000.size a := fun v534 k0_hw219 => k0_hw219
def k0_off253 (k0_t21 : Fin k0_t21_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v536 : BitVec 32 := Scalar.addi v461 c160_i32_300
  let v537 : Index := Scalar.indexCast v536
  ![v537.toNat]

def k0_chk220 (v541 : IVec S16 32) : Prop :=
  (∀ a x, ((![v541] : Fin 1 → IVec S16 32) a x).toNat < S100000.size a)
instance k0_chk220.dec : ∀ (v541 : IVec S16 32), Decidable (k0_chk220 v541) := fun v541 => decidable_of_iff' _ (Iff.of_eq (k0_chk220.eq_1 v541))
theorem k0_idx220_inb : ∀ (v541 : IVec S16 32) (k0_hw220 : k0_chk220 v541), ∀ a x, ((![v541] : Fin 1 → IVec S16 32) a x).toNat < S100000.size a := fun v541 k0_hw220 => k0_hw220
def k0_off254 (k0_t21 : Fin k0_t21_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v543 : BitVec 32 := Scalar.addi v461 c176_i32_301
  let v544 : Index := Scalar.indexCast v543
  ![v544.toNat]

def k0_chk221 (v548 : IVec S16 32) : Prop :=
  (∀ a x, ((![v548] : Fin 1 → IVec S16 32) a x).toNat < S100000.size a)
instance k0_chk221.dec : ∀ (v548 : IVec S16 32), Decidable (k0_chk221 v548) := fun v548 => decidable_of_iff' _ (Iff.of_eq (k0_chk221.eq_1 v548))
theorem k0_idx221_inb : ∀ (v548 : IVec S16 32) (k0_hw221 : k0_chk221 v548), ∀ a x, ((![v548] : Fin 1 → IVec S16 32) a x).toNat < S100000.size a := fun v548 k0_hw221 => k0_hw221
def k0_off255 (k0_t21 : Fin k0_t21_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v550 : BitVec 32 := Scalar.addi v461 c192_i32_302
  let v551 : Index := Scalar.indexCast v550
  ![v551.toNat]

def k0_chk222 (v555 : IVec S16 32) : Prop :=
  (∀ a x, ((![v555] : Fin 1 → IVec S16 32) a x).toNat < S100000.size a)
instance k0_chk222.dec : ∀ (v555 : IVec S16 32), Decidable (k0_chk222 v555) := fun v555 => decidable_of_iff' _ (Iff.of_eq (k0_chk222.eq_1 v555))
theorem k0_idx222_inb : ∀ (v555 : IVec S16 32) (k0_hw222 : k0_chk222 v555), ∀ a x, ((![v555] : Fin 1 → IVec S16 32) a x).toNat < S100000.size a := fun v555 k0_hw222 => k0_hw222
def k0_off256 (k0_t21 : Fin k0_t21_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v557 : BitVec 32 := Scalar.addi v461 c208_i32_303
  let v558 : Index := Scalar.indexCast v557
  ![v558.toNat]

def k0_chk223 (v562 : IVec S16 32) : Prop :=
  (∀ a x, ((![v562] : Fin 1 → IVec S16 32) a x).toNat < S100000.size a)
instance k0_chk223.dec : ∀ (v562 : IVec S16 32), Decidable (k0_chk223 v562) := fun v562 => decidable_of_iff' _ (Iff.of_eq (k0_chk223.eq_1 v562))
theorem k0_idx223_inb : ∀ (v562 : IVec S16 32) (k0_hw223 : k0_chk223 v562), ∀ a x, ((![v562] : Fin 1 → IVec S16 32) a x).toNat < S100000.size a := fun v562 k0_hw223 => k0_hw223
def k0_off257 (k0_t21 : Fin k0_t21_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let v564 : BitVec 32 := Scalar.addi v461 c224_i32_304
  let v565 : Index := Scalar.indexCast v564
  ![v565.toNat]

def k0_chk224 (v569 : IVec S16 32) : Prop :=
  (∀ a x, ((![v569] : Fin 1 → IVec S16 32) a x).toNat < S100000.size a)
instance k0_chk224.dec : ∀ (v569 : IVec S16 32), Decidable (k0_chk224 v569) := fun v569 => decidable_of_iff' _ (Iff.of_eq (k0_chk224.eq_1 v569))
theorem k0_idx224_inb : ∀ (v569 : IVec S16 32) (k0_hw224 : k0_chk224 v569), ∀ a x, ((![v569] : Fin 1 → IVec S16 32) a x).toNat < S100000.size a := fun v569 k0_hw224 => k0_hw224
def k0_off258 (k0_t21 : Fin k0_t21_loop.trips) : Fin 1 → Nat :=
  let c0_i32_281 : BitVec 32 := 0#32
  let c1_i32_283 : BitVec 32 := 1#32
  let arg36 : BitVec 32 := Scf.iv c0_i32_281 c1_i32_283 k0_t21
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off259 (i : grid0.Coords) (k0_t19 : Fin (k0_t19_loop i).trips) : Fin 2 → Nat :=
  let c108_i32_285 : BitVec 32 := 108#32
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c1_i32_52 : BitVec 32 := 1#32
  let arg34 : BitVec 32 := Scf.iv v89 c1_i32_52 k0_t19
  let v460 : BitVec 32 := Scalar.addi c108_i32_285 arg34
  let c8192_i32_r28 : BitVec 32 := 8192#32
  ![v460.toNat, 8192]
@[reducible] def k0_t22_loop (i : grid0.Coords) : Scf.Loop 32 :=
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c36_i32_48 : BitVec 32 := 36#32
  let c0_i32_47 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c108_i32_46 : BitVec 32 := 108#32
  let v90 : BitVec 32 := Scalar.subi v38 c108_i32_46
  let v91 : BitVec 32 := Scalar.maxsi c0_i32_47 v90
  let v92 : BitVec 32 := Scalar.minsi c36_i32_48 v91
  let v96 : BitVec 32 := Scalar.subi v92 v89
  let c1_i32_51 : BitVec 32 := 1#32
  let v98 : BitVec 32 := Scalar.divsi v96 c1_i32_51
  let v99 : BitVec 32 := Scalar.muli v98 c1_i32_51
  let v100 : BitVec 32 := Scalar.addi v89 v99
  let v97 : BitVec 32 := Scalar.addi v89 v96
  let c1_i32_53 : BitVec 32 := 1#32
  ⟨v100, v97, c1_i32_53⟩
def k0_off260 (i : grid0.Coords) (k0_t22 : Fin (k0_t22_loop i).trips) : Fin 2 → Nat :=
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c36_i32_48 : BitVec 32 := 36#32
  let c0_i32_47 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c108_i32_46 : BitVec 32 := 108#32
  let v90 : BitVec 32 := Scalar.subi v38 c108_i32_46
  let v91 : BitVec 32 := Scalar.maxsi c0_i32_47 v90
  let v92 : BitVec 32 := Scalar.minsi c36_i32_48 v91
  let v96 : BitVec 32 := Scalar.subi v92 v89
  let c1_i32_51 : BitVec 32 := 1#32
  let v98 : BitVec 32 := Scalar.divsi v96 c1_i32_51
  let v99 : BitVec 32 := Scalar.muli v98 c1_i32_51
  let v100 : BitVec 32 := Scalar.addi v89 v99
  let c1_i32_53 : BitVec 32 := 1#32
  let arg34 : BitVec 32 := Scf.iv v100 c1_i32_53 k0_t22
  let c0_i32_287_r29 : BitVec 32 := 0#32
  ![arg34.toNat, 0]
@[reducible] def k0_t23_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off261 (k0_t23 : Fin k0_t23_loop.trips) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk225 (v464 : IVec S16 32) : Prop :=
  (∀ a x, ((![v464] : Fin 1 → IVec S16 32) a x).toNat < S100000.size a)
instance k0_chk225.dec : ∀ (v464 : IVec S16 32), Decidable (k0_chk225 v464) := fun v464 => decidable_of_iff' _ (Iff.of_eq (k0_chk225.eq_1 v464))
theorem k0_idx225_inb : ∀ (v464 : IVec S16 32) (k0_hw225 : k0_chk225 v464), ∀ a x, ((![v464] : Fin 1 → IVec S16 32) a x).toNat < S100000.size a := fun v464 k0_hw225 => k0_hw225
def k0_off262 (k0_t23 : Fin k0_t23_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v466 : BitVec 32 := Scalar.addi v461 c0_i32_288
  let v467 : Index := Scalar.indexCast v466
  ![v467.toNat]

def k0_chk226 (v471 : IVec S16 32) : Prop :=
  (∀ a x, ((![v471] : Fin 1 → IVec S16 32) a x).toNat < S100000.size a)
instance k0_chk226.dec : ∀ (v471 : IVec S16 32), Decidable (k0_chk226 v471) := fun v471 => decidable_of_iff' _ (Iff.of_eq (k0_chk226.eq_1 v471))
theorem k0_idx226_inb : ∀ (v471 : IVec S16 32) (k0_hw226 : k0_chk226 v471), ∀ a x, ((![v471] : Fin 1 → IVec S16 32) a x).toNat < S100000.size a := fun v471 k0_hw226 => k0_hw226
def k0_off263 (k0_t23 : Fin k0_t23_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v473 : BitVec 32 := Scalar.addi v461 c16_i32_289
  let v474 : Index := Scalar.indexCast v473
  ![v474.toNat]

def k0_chk227 (v478 : IVec S16 32) : Prop :=
  (∀ a x, ((![v478] : Fin 1 → IVec S16 32) a x).toNat < S100000.size a)
instance k0_chk227.dec : ∀ (v478 : IVec S16 32), Decidable (k0_chk227 v478) := fun v478 => decidable_of_iff' _ (Iff.of_eq (k0_chk227.eq_1 v478))
theorem k0_idx227_inb : ∀ (v478 : IVec S16 32) (k0_hw227 : k0_chk227 v478), ∀ a x, ((![v478] : Fin 1 → IVec S16 32) a x).toNat < S100000.size a := fun v478 k0_hw227 => k0_hw227
def k0_off264 (k0_t23 : Fin k0_t23_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v480 : BitVec 32 := Scalar.addi v461 c32_i32_291
  let v481 : Index := Scalar.indexCast v480
  ![v481.toNat]

def k0_chk228 (v485 : IVec S16 32) : Prop :=
  (∀ a x, ((![v485] : Fin 1 → IVec S16 32) a x).toNat < S100000.size a)
instance k0_chk228.dec : ∀ (v485 : IVec S16 32), Decidable (k0_chk228 v485) := fun v485 => decidable_of_iff' _ (Iff.of_eq (k0_chk228.eq_1 v485))
theorem k0_idx228_inb : ∀ (v485 : IVec S16 32) (k0_hw228 : k0_chk228 v485), ∀ a x, ((![v485] : Fin 1 → IVec S16 32) a x).toNat < S100000.size a := fun v485 k0_hw228 => k0_hw228
def k0_off265 (k0_t23 : Fin k0_t23_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v487 : BitVec 32 := Scalar.addi v461 c48_i32_292
  let v488 : Index := Scalar.indexCast v487
  ![v488.toNat]

def k0_chk229 (v492 : IVec S16 32) : Prop :=
  (∀ a x, ((![v492] : Fin 1 → IVec S16 32) a x).toNat < S100000.size a)
instance k0_chk229.dec : ∀ (v492 : IVec S16 32), Decidable (k0_chk229 v492) := fun v492 => decidable_of_iff' _ (Iff.of_eq (k0_chk229.eq_1 v492))
theorem k0_idx229_inb : ∀ (v492 : IVec S16 32) (k0_hw229 : k0_chk229 v492), ∀ a x, ((![v492] : Fin 1 → IVec S16 32) a x).toNat < S100000.size a := fun v492 k0_hw229 => k0_hw229
def k0_off266 (k0_t23 : Fin k0_t23_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v494 : BitVec 32 := Scalar.addi v461 c64_i32_293
  let v495 : Index := Scalar.indexCast v494
  ![v495.toNat]

def k0_chk230 (v499 : IVec S16 32) : Prop :=
  (∀ a x, ((![v499] : Fin 1 → IVec S16 32) a x).toNat < S100000.size a)
instance k0_chk230.dec : ∀ (v499 : IVec S16 32), Decidable (k0_chk230 v499) := fun v499 => decidable_of_iff' _ (Iff.of_eq (k0_chk230.eq_1 v499))
theorem k0_idx230_inb : ∀ (v499 : IVec S16 32) (k0_hw230 : k0_chk230 v499), ∀ a x, ((![v499] : Fin 1 → IVec S16 32) a x).toNat < S100000.size a := fun v499 k0_hw230 => k0_hw230
def k0_off267 (k0_t23 : Fin k0_t23_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v501 : BitVec 32 := Scalar.addi v461 c80_i32_294
  let v502 : Index := Scalar.indexCast v501
  ![v502.toNat]

def k0_chk231 (v506 : IVec S16 32) : Prop :=
  (∀ a x, ((![v506] : Fin 1 → IVec S16 32) a x).toNat < S100000.size a)
instance k0_chk231.dec : ∀ (v506 : IVec S16 32), Decidable (k0_chk231 v506) := fun v506 => decidable_of_iff' _ (Iff.of_eq (k0_chk231.eq_1 v506))
theorem k0_idx231_inb : ∀ (v506 : IVec S16 32) (k0_hw231 : k0_chk231 v506), ∀ a x, ((![v506] : Fin 1 → IVec S16 32) a x).toNat < S100000.size a := fun v506 k0_hw231 => k0_hw231
def k0_off268 (k0_t23 : Fin k0_t23_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v508 : BitVec 32 := Scalar.addi v461 c96_i32_295
  let v509 : Index := Scalar.indexCast v508
  ![v509.toNat]

def k0_chk232 (v513 : IVec S16 32) : Prop :=
  (∀ a x, ((![v513] : Fin 1 → IVec S16 32) a x).toNat < S100000.size a)
instance k0_chk232.dec : ∀ (v513 : IVec S16 32), Decidable (k0_chk232 v513) := fun v513 => decidable_of_iff' _ (Iff.of_eq (k0_chk232.eq_1 v513))
theorem k0_idx232_inb : ∀ (v513 : IVec S16 32) (k0_hw232 : k0_chk232 v513), ∀ a x, ((![v513] : Fin 1 → IVec S16 32) a x).toNat < S100000.size a := fun v513 k0_hw232 => k0_hw232
def k0_off269 (k0_t23 : Fin k0_t23_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v515 : BitVec 32 := Scalar.addi v461 c112_i32_296
  let v516 : Index := Scalar.indexCast v515
  ![v516.toNat]

def k0_chk233 (v520 : IVec S16 32) : Prop :=
  (∀ a x, ((![v520] : Fin 1 → IVec S16 32) a x).toNat < S100000.size a)
instance k0_chk233.dec : ∀ (v520 : IVec S16 32), Decidable (k0_chk233 v520) := fun v520 => decidable_of_iff' _ (Iff.of_eq (k0_chk233.eq_1 v520))
theorem k0_idx233_inb : ∀ (v520 : IVec S16 32) (k0_hw233 : k0_chk233 v520), ∀ a x, ((![v520] : Fin 1 → IVec S16 32) a x).toNat < S100000.size a := fun v520 k0_hw233 => k0_hw233
def k0_off270 (k0_t23 : Fin k0_t23_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v522 : BitVec 32 := Scalar.addi v461 c128_i32_297
  let v523 : Index := Scalar.indexCast v522
  ![v523.toNat]

def k0_chk234 (v527 : IVec S16 32) : Prop :=
  (∀ a x, ((![v527] : Fin 1 → IVec S16 32) a x).toNat < S100000.size a)
instance k0_chk234.dec : ∀ (v527 : IVec S16 32), Decidable (k0_chk234 v527) := fun v527 => decidable_of_iff' _ (Iff.of_eq (k0_chk234.eq_1 v527))
theorem k0_idx234_inb : ∀ (v527 : IVec S16 32) (k0_hw234 : k0_chk234 v527), ∀ a x, ((![v527] : Fin 1 → IVec S16 32) a x).toNat < S100000.size a := fun v527 k0_hw234 => k0_hw234
def k0_off271 (k0_t23 : Fin k0_t23_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v529 : BitVec 32 := Scalar.addi v461 c144_i32_299
  let v530 : Index := Scalar.indexCast v529
  ![v530.toNat]

def k0_chk235 (v534 : IVec S16 32) : Prop :=
  (∀ a x, ((![v534] : Fin 1 → IVec S16 32) a x).toNat < S100000.size a)
instance k0_chk235.dec : ∀ (v534 : IVec S16 32), Decidable (k0_chk235 v534) := fun v534 => decidable_of_iff' _ (Iff.of_eq (k0_chk235.eq_1 v534))
theorem k0_idx235_inb : ∀ (v534 : IVec S16 32) (k0_hw235 : k0_chk235 v534), ∀ a x, ((![v534] : Fin 1 → IVec S16 32) a x).toNat < S100000.size a := fun v534 k0_hw235 => k0_hw235
def k0_off272 (k0_t23 : Fin k0_t23_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v536 : BitVec 32 := Scalar.addi v461 c160_i32_300
  let v537 : Index := Scalar.indexCast v536
  ![v537.toNat]

def k0_chk236 (v541 : IVec S16 32) : Prop :=
  (∀ a x, ((![v541] : Fin 1 → IVec S16 32) a x).toNat < S100000.size a)
instance k0_chk236.dec : ∀ (v541 : IVec S16 32), Decidable (k0_chk236 v541) := fun v541 => decidable_of_iff' _ (Iff.of_eq (k0_chk236.eq_1 v541))
theorem k0_idx236_inb : ∀ (v541 : IVec S16 32) (k0_hw236 : k0_chk236 v541), ∀ a x, ((![v541] : Fin 1 → IVec S16 32) a x).toNat < S100000.size a := fun v541 k0_hw236 => k0_hw236
def k0_off273 (k0_t23 : Fin k0_t23_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v543 : BitVec 32 := Scalar.addi v461 c176_i32_301
  let v544 : Index := Scalar.indexCast v543
  ![v544.toNat]

def k0_chk237 (v548 : IVec S16 32) : Prop :=
  (∀ a x, ((![v548] : Fin 1 → IVec S16 32) a x).toNat < S100000.size a)
instance k0_chk237.dec : ∀ (v548 : IVec S16 32), Decidable (k0_chk237 v548) := fun v548 => decidable_of_iff' _ (Iff.of_eq (k0_chk237.eq_1 v548))
theorem k0_idx237_inb : ∀ (v548 : IVec S16 32) (k0_hw237 : k0_chk237 v548), ∀ a x, ((![v548] : Fin 1 → IVec S16 32) a x).toNat < S100000.size a := fun v548 k0_hw237 => k0_hw237
def k0_off274 (k0_t23 : Fin k0_t23_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v550 : BitVec 32 := Scalar.addi v461 c192_i32_302
  let v551 : Index := Scalar.indexCast v550
  ![v551.toNat]

def k0_chk238 (v555 : IVec S16 32) : Prop :=
  (∀ a x, ((![v555] : Fin 1 → IVec S16 32) a x).toNat < S100000.size a)
instance k0_chk238.dec : ∀ (v555 : IVec S16 32), Decidable (k0_chk238 v555) := fun v555 => decidable_of_iff' _ (Iff.of_eq (k0_chk238.eq_1 v555))
theorem k0_idx238_inb : ∀ (v555 : IVec S16 32) (k0_hw238 : k0_chk238 v555), ∀ a x, ((![v555] : Fin 1 → IVec S16 32) a x).toNat < S100000.size a := fun v555 k0_hw238 => k0_hw238
def k0_off275 (k0_t23 : Fin k0_t23_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v557 : BitVec 32 := Scalar.addi v461 c208_i32_303
  let v558 : Index := Scalar.indexCast v557
  ![v558.toNat]

def k0_chk239 (v562 : IVec S16 32) : Prop :=
  (∀ a x, ((![v562] : Fin 1 → IVec S16 32) a x).toNat < S100000.size a)
instance k0_chk239.dec : ∀ (v562 : IVec S16 32), Decidable (k0_chk239 v562) := fun v562 => decidable_of_iff' _ (Iff.of_eq (k0_chk239.eq_1 v562))
theorem k0_idx239_inb : ∀ (v562 : IVec S16 32) (k0_hw239 : k0_chk239 v562), ∀ a x, ((![v562] : Fin 1 → IVec S16 32) a x).toNat < S100000.size a := fun v562 k0_hw239 => k0_hw239
def k0_off276 (k0_t23 : Fin k0_t23_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let v564 : BitVec 32 := Scalar.addi v461 c224_i32_304
  let v565 : Index := Scalar.indexCast v564
  ![v565.toNat]

def k0_chk240 (v569 : IVec S16 32) : Prop :=
  (∀ a x, ((![v569] : Fin 1 → IVec S16 32) a x).toNat < S100000.size a)
instance k0_chk240.dec : ∀ (v569 : IVec S16 32), Decidable (k0_chk240 v569) := fun v569 => decidable_of_iff' _ (Iff.of_eq (k0_chk240.eq_1 v569))
theorem k0_idx240_inb : ∀ (v569 : IVec S16 32) (k0_hw240 : k0_chk240 v569), ∀ a x, ((![v569] : Fin 1 → IVec S16 32) a x).toNat < S100000.size a := fun v569 k0_hw240 => k0_hw240
def k0_off277 (k0_t23 : Fin k0_t23_loop.trips) : Fin 1 → Nat :=
  let c0_i32_275 : BitVec 32 := 0#32
  let c1_i32_277 : BitVec 32 := 1#32
  let arg36 : BitVec 32 := Scf.iv c0_i32_275 c1_i32_277 k0_t23
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off278 (i : grid0.Coords) (k0_t22 : Fin (k0_t22_loop i).trips) : Fin 2 → Nat :=
  let c108_i32_279 : BitVec 32 := 108#32
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c36_i32_48 : BitVec 32 := 36#32
  let c0_i32_47 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c108_i32_46 : BitVec 32 := 108#32
  let v90 : BitVec 32 := Scalar.subi v38 c108_i32_46
  let v91 : BitVec 32 := Scalar.maxsi c0_i32_47 v90
  let v92 : BitVec 32 := Scalar.minsi c36_i32_48 v91
  let v96 : BitVec 32 := Scalar.subi v92 v89
  let c1_i32_51 : BitVec 32 := 1#32
  let v98 : BitVec 32 := Scalar.divsi v96 c1_i32_51
  let v99 : BitVec 32 := Scalar.muli v98 c1_i32_51
  let v100 : BitVec 32 := Scalar.addi v89 v99
  let c1_i32_53 : BitVec 32 := 1#32
  let arg34 : BitVec 32 := Scf.iv v100 c1_i32_53 k0_t22
  let v457 : BitVec 32 := Scalar.addi c108_i32_279 arg34
  let c0_i32_287_r30 : BitVec 32 := 0#32
  ![v457.toNat, 0]
@[reducible] def k0_t24_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off279 (k0_t24 : Fin k0_t24_loop.trips) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk241 (v464 : IVec S16 32) : Prop :=
  (∀ a x, ((![v464] : Fin 1 → IVec S16 32) a x).toNat < S100000.size a)
instance k0_chk241.dec : ∀ (v464 : IVec S16 32), Decidable (k0_chk241 v464) := fun v464 => decidable_of_iff' _ (Iff.of_eq (k0_chk241.eq_1 v464))
theorem k0_idx241_inb : ∀ (v464 : IVec S16 32) (k0_hw241 : k0_chk241 v464), ∀ a x, ((![v464] : Fin 1 → IVec S16 32) a x).toNat < S100000.size a := fun v464 k0_hw241 => k0_hw241
def k0_off280 (k0_t24 : Fin k0_t24_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v466 : BitVec 32 := Scalar.addi v461 c0_i32_288
  let v467 : Index := Scalar.indexCast v466
  ![v467.toNat]

def k0_chk242 (v471 : IVec S16 32) : Prop :=
  (∀ a x, ((![v471] : Fin 1 → IVec S16 32) a x).toNat < S100000.size a)
instance k0_chk242.dec : ∀ (v471 : IVec S16 32), Decidable (k0_chk242 v471) := fun v471 => decidable_of_iff' _ (Iff.of_eq (k0_chk242.eq_1 v471))
theorem k0_idx242_inb : ∀ (v471 : IVec S16 32) (k0_hw242 : k0_chk242 v471), ∀ a x, ((![v471] : Fin 1 → IVec S16 32) a x).toNat < S100000.size a := fun v471 k0_hw242 => k0_hw242
def k0_off281 (k0_t24 : Fin k0_t24_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v473 : BitVec 32 := Scalar.addi v461 c16_i32_289
  let v474 : Index := Scalar.indexCast v473
  ![v474.toNat]

def k0_chk243 (v478 : IVec S16 32) : Prop :=
  (∀ a x, ((![v478] : Fin 1 → IVec S16 32) a x).toNat < S100000.size a)
instance k0_chk243.dec : ∀ (v478 : IVec S16 32), Decidable (k0_chk243 v478) := fun v478 => decidable_of_iff' _ (Iff.of_eq (k0_chk243.eq_1 v478))
theorem k0_idx243_inb : ∀ (v478 : IVec S16 32) (k0_hw243 : k0_chk243 v478), ∀ a x, ((![v478] : Fin 1 → IVec S16 32) a x).toNat < S100000.size a := fun v478 k0_hw243 => k0_hw243
def k0_off282 (k0_t24 : Fin k0_t24_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v480 : BitVec 32 := Scalar.addi v461 c32_i32_291
  let v481 : Index := Scalar.indexCast v480
  ![v481.toNat]

def k0_chk244 (v485 : IVec S16 32) : Prop :=
  (∀ a x, ((![v485] : Fin 1 → IVec S16 32) a x).toNat < S100000.size a)
instance k0_chk244.dec : ∀ (v485 : IVec S16 32), Decidable (k0_chk244 v485) := fun v485 => decidable_of_iff' _ (Iff.of_eq (k0_chk244.eq_1 v485))
theorem k0_idx244_inb : ∀ (v485 : IVec S16 32) (k0_hw244 : k0_chk244 v485), ∀ a x, ((![v485] : Fin 1 → IVec S16 32) a x).toNat < S100000.size a := fun v485 k0_hw244 => k0_hw244
def k0_off283 (k0_t24 : Fin k0_t24_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v487 : BitVec 32 := Scalar.addi v461 c48_i32_292
  let v488 : Index := Scalar.indexCast v487
  ![v488.toNat]

def k0_chk245 (v492 : IVec S16 32) : Prop :=
  (∀ a x, ((![v492] : Fin 1 → IVec S16 32) a x).toNat < S100000.size a)
instance k0_chk245.dec : ∀ (v492 : IVec S16 32), Decidable (k0_chk245 v492) := fun v492 => decidable_of_iff' _ (Iff.of_eq (k0_chk245.eq_1 v492))
theorem k0_idx245_inb : ∀ (v492 : IVec S16 32) (k0_hw245 : k0_chk245 v492), ∀ a x, ((![v492] : Fin 1 → IVec S16 32) a x).toNat < S100000.size a := fun v492 k0_hw245 => k0_hw245
def k0_off284 (k0_t24 : Fin k0_t24_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v494 : BitVec 32 := Scalar.addi v461 c64_i32_293
  let v495 : Index := Scalar.indexCast v494
  ![v495.toNat]

def k0_chk246 (v499 : IVec S16 32) : Prop :=
  (∀ a x, ((![v499] : Fin 1 → IVec S16 32) a x).toNat < S100000.size a)
instance k0_chk246.dec : ∀ (v499 : IVec S16 32), Decidable (k0_chk246 v499) := fun v499 => decidable_of_iff' _ (Iff.of_eq (k0_chk246.eq_1 v499))
theorem k0_idx246_inb : ∀ (v499 : IVec S16 32) (k0_hw246 : k0_chk246 v499), ∀ a x, ((![v499] : Fin 1 → IVec S16 32) a x).toNat < S100000.size a := fun v499 k0_hw246 => k0_hw246
def k0_off285 (k0_t24 : Fin k0_t24_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v501 : BitVec 32 := Scalar.addi v461 c80_i32_294
  let v502 : Index := Scalar.indexCast v501
  ![v502.toNat]

def k0_chk247 (v506 : IVec S16 32) : Prop :=
  (∀ a x, ((![v506] : Fin 1 → IVec S16 32) a x).toNat < S100000.size a)
instance k0_chk247.dec : ∀ (v506 : IVec S16 32), Decidable (k0_chk247 v506) := fun v506 => decidable_of_iff' _ (Iff.of_eq (k0_chk247.eq_1 v506))
theorem k0_idx247_inb : ∀ (v506 : IVec S16 32) (k0_hw247 : k0_chk247 v506), ∀ a x, ((![v506] : Fin 1 → IVec S16 32) a x).toNat < S100000.size a := fun v506 k0_hw247 => k0_hw247
def k0_off286 (k0_t24 : Fin k0_t24_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v508 : BitVec 32 := Scalar.addi v461 c96_i32_295
  let v509 : Index := Scalar.indexCast v508
  ![v509.toNat]

def k0_chk248 (v513 : IVec S16 32) : Prop :=
  (∀ a x, ((![v513] : Fin 1 → IVec S16 32) a x).toNat < S100000.size a)
instance k0_chk248.dec : ∀ (v513 : IVec S16 32), Decidable (k0_chk248 v513) := fun v513 => decidable_of_iff' _ (Iff.of_eq (k0_chk248.eq_1 v513))
theorem k0_idx248_inb : ∀ (v513 : IVec S16 32) (k0_hw248 : k0_chk248 v513), ∀ a x, ((![v513] : Fin 1 → IVec S16 32) a x).toNat < S100000.size a := fun v513 k0_hw248 => k0_hw248
def k0_off287 (k0_t24 : Fin k0_t24_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v515 : BitVec 32 := Scalar.addi v461 c112_i32_296
  let v516 : Index := Scalar.indexCast v515
  ![v516.toNat]

def k0_chk249 (v520 : IVec S16 32) : Prop :=
  (∀ a x, ((![v520] : Fin 1 → IVec S16 32) a x).toNat < S100000.size a)
instance k0_chk249.dec : ∀ (v520 : IVec S16 32), Decidable (k0_chk249 v520) := fun v520 => decidable_of_iff' _ (Iff.of_eq (k0_chk249.eq_1 v520))
theorem k0_idx249_inb : ∀ (v520 : IVec S16 32) (k0_hw249 : k0_chk249 v520), ∀ a x, ((![v520] : Fin 1 → IVec S16 32) a x).toNat < S100000.size a := fun v520 k0_hw249 => k0_hw249
def k0_off288 (k0_t24 : Fin k0_t24_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v522 : BitVec 32 := Scalar.addi v461 c128_i32_297
  let v523 : Index := Scalar.indexCast v522
  ![v523.toNat]

def k0_chk250 (v527 : IVec S16 32) : Prop :=
  (∀ a x, ((![v527] : Fin 1 → IVec S16 32) a x).toNat < S100000.size a)
instance k0_chk250.dec : ∀ (v527 : IVec S16 32), Decidable (k0_chk250 v527) := fun v527 => decidable_of_iff' _ (Iff.of_eq (k0_chk250.eq_1 v527))
theorem k0_idx250_inb : ∀ (v527 : IVec S16 32) (k0_hw250 : k0_chk250 v527), ∀ a x, ((![v527] : Fin 1 → IVec S16 32) a x).toNat < S100000.size a := fun v527 k0_hw250 => k0_hw250
def k0_off289 (k0_t24 : Fin k0_t24_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v529 : BitVec 32 := Scalar.addi v461 c144_i32_299
  let v530 : Index := Scalar.indexCast v529
  ![v530.toNat]

def k0_chk251 (v534 : IVec S16 32) : Prop :=
  (∀ a x, ((![v534] : Fin 1 → IVec S16 32) a x).toNat < S100000.size a)
instance k0_chk251.dec : ∀ (v534 : IVec S16 32), Decidable (k0_chk251 v534) := fun v534 => decidable_of_iff' _ (Iff.of_eq (k0_chk251.eq_1 v534))
theorem k0_idx251_inb : ∀ (v534 : IVec S16 32) (k0_hw251 : k0_chk251 v534), ∀ a x, ((![v534] : Fin 1 → IVec S16 32) a x).toNat < S100000.size a := fun v534 k0_hw251 => k0_hw251
def k0_off290 (k0_t24 : Fin k0_t24_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v536 : BitVec 32 := Scalar.addi v461 c160_i32_300
  let v537 : Index := Scalar.indexCast v536
  ![v537.toNat]

def k0_chk252 (v541 : IVec S16 32) : Prop :=
  (∀ a x, ((![v541] : Fin 1 → IVec S16 32) a x).toNat < S100000.size a)
instance k0_chk252.dec : ∀ (v541 : IVec S16 32), Decidable (k0_chk252 v541) := fun v541 => decidable_of_iff' _ (Iff.of_eq (k0_chk252.eq_1 v541))
theorem k0_idx252_inb : ∀ (v541 : IVec S16 32) (k0_hw252 : k0_chk252 v541), ∀ a x, ((![v541] : Fin 1 → IVec S16 32) a x).toNat < S100000.size a := fun v541 k0_hw252 => k0_hw252
def k0_off291 (k0_t24 : Fin k0_t24_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v543 : BitVec 32 := Scalar.addi v461 c176_i32_301
  let v544 : Index := Scalar.indexCast v543
  ![v544.toNat]

def k0_chk253 (v548 : IVec S16 32) : Prop :=
  (∀ a x, ((![v548] : Fin 1 → IVec S16 32) a x).toNat < S100000.size a)
instance k0_chk253.dec : ∀ (v548 : IVec S16 32), Decidable (k0_chk253 v548) := fun v548 => decidable_of_iff' _ (Iff.of_eq (k0_chk253.eq_1 v548))
theorem k0_idx253_inb : ∀ (v548 : IVec S16 32) (k0_hw253 : k0_chk253 v548), ∀ a x, ((![v548] : Fin 1 → IVec S16 32) a x).toNat < S100000.size a := fun v548 k0_hw253 => k0_hw253
def k0_off292 (k0_t24 : Fin k0_t24_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v550 : BitVec 32 := Scalar.addi v461 c192_i32_302
  let v551 : Index := Scalar.indexCast v550
  ![v551.toNat]

def k0_chk254 (v555 : IVec S16 32) : Prop :=
  (∀ a x, ((![v555] : Fin 1 → IVec S16 32) a x).toNat < S100000.size a)
instance k0_chk254.dec : ∀ (v555 : IVec S16 32), Decidable (k0_chk254 v555) := fun v555 => decidable_of_iff' _ (Iff.of_eq (k0_chk254.eq_1 v555))
theorem k0_idx254_inb : ∀ (v555 : IVec S16 32) (k0_hw254 : k0_chk254 v555), ∀ a x, ((![v555] : Fin 1 → IVec S16 32) a x).toNat < S100000.size a := fun v555 k0_hw254 => k0_hw254
def k0_off293 (k0_t24 : Fin k0_t24_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v557 : BitVec 32 := Scalar.addi v461 c208_i32_303
  let v558 : Index := Scalar.indexCast v557
  ![v558.toNat]

def k0_chk255 (v562 : IVec S16 32) : Prop :=
  (∀ a x, ((![v562] : Fin 1 → IVec S16 32) a x).toNat < S100000.size a)
instance k0_chk255.dec : ∀ (v562 : IVec S16 32), Decidable (k0_chk255 v562) := fun v562 => decidable_of_iff' _ (Iff.of_eq (k0_chk255.eq_1 v562))
theorem k0_idx255_inb : ∀ (v562 : IVec S16 32) (k0_hw255 : k0_chk255 v562), ∀ a x, ((![v562] : Fin 1 → IVec S16 32) a x).toNat < S100000.size a := fun v562 k0_hw255 => k0_hw255
def k0_off294 (k0_t24 : Fin k0_t24_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let v564 : BitVec 32 := Scalar.addi v461 c224_i32_304
  let v565 : Index := Scalar.indexCast v564
  ![v565.toNat]

def k0_chk256 (v569 : IVec S16 32) : Prop :=
  (∀ a x, ((![v569] : Fin 1 → IVec S16 32) a x).toNat < S100000.size a)
instance k0_chk256.dec : ∀ (v569 : IVec S16 32), Decidable (k0_chk256 v569) := fun v569 => decidable_of_iff' _ (Iff.of_eq (k0_chk256.eq_1 v569))
theorem k0_idx256_inb : ∀ (v569 : IVec S16 32) (k0_hw256 : k0_chk256 v569), ∀ a x, ((![v569] : Fin 1 → IVec S16 32) a x).toNat < S100000.size a := fun v569 k0_hw256 => k0_hw256
def k0_off295 (k0_t24 : Fin k0_t24_loop.trips) : Fin 1 → Nat :=
  let c0_i32_281 : BitVec 32 := 0#32
  let c1_i32_283 : BitVec 32 := 1#32
  let arg36 : BitVec 32 := Scf.iv c0_i32_281 c1_i32_283 k0_t24
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off296 (i : grid0.Coords) (k0_t22 : Fin (k0_t22_loop i).trips) : Fin 2 → Nat :=
  let c108_i32_285 : BitVec 32 := 108#32
  let c36_i32_45 : BitVec 32 := 36#32
  let c0_i32_44 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c108_i32 : BitVec 32 := 108#32
  let v87 : BitVec 32 := Scalar.subi v19 c108_i32
  let v88 : BitVec 32 := Scalar.maxsi c0_i32_44 v87
  let v89 : BitVec 32 := Scalar.minsi c36_i32_45 v88
  let c36_i32_48 : BitVec 32 := 36#32
  let c0_i32_47 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c108_i32_46 : BitVec 32 := 108#32
  let v90 : BitVec 32 := Scalar.subi v38 c108_i32_46
  let v91 : BitVec 32 := Scalar.maxsi c0_i32_47 v90
  let v92 : BitVec 32 := Scalar.minsi c36_i32_48 v91
  let v96 : BitVec 32 := Scalar.subi v92 v89
  let c1_i32_51 : BitVec 32 := 1#32
  let v98 : BitVec 32 := Scalar.divsi v96 c1_i32_51
  let v99 : BitVec 32 := Scalar.muli v98 c1_i32_51
  let v100 : BitVec 32 := Scalar.addi v89 v99
  let c1_i32_53 : BitVec 32 := 1#32
  let arg34 : BitVec 32 := Scf.iv v100 c1_i32_53 k0_t22
  let v460 : BitVec 32 := Scalar.addi c108_i32_285 arg34
  let c8192_i32_r31 : BitVec 32 := 8192#32
  ![v460.toNat, 8192]
@[reducible] def k0_t25_loop (i : grid0.Coords) : Scf.Loop 32 :=
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c36_i32_58 : BitVec 32 := 36#32
  let c0_i32_57 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_56 : BitVec 32 := 144#32
  let v106 : BitVec 32 := Scalar.subi v38 c144_i32_56
  let v107 : BitVec 32 := Scalar.maxsi c0_i32_57 v106
  let v108 : BitVec 32 := Scalar.minsi c36_i32_58 v107
  let v112 : BitVec 32 := Scalar.subi v108 v105
  let c1_i32_61 : BitVec 32 := 1#32
  let v114 : BitVec 32 := Scalar.divsi v112 c1_i32_61
  let v115 : BitVec 32 := Scalar.muli v114 c1_i32_61
  let v116 : BitVec 32 := Scalar.addi v105 v115
  let c1_i32_62 : BitVec 32 := 1#32
  ⟨v105, v116, c1_i32_62⟩
def k0_off297 (i : grid0.Coords) (k0_t25 : Fin (k0_t25_loop i).trips) : Fin 2 → Nat :=
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c1_i32_62 : BitVec 32 := 1#32
  let arg34 : BitVec 32 := Scf.iv v105 c1_i32_62 k0_t25
  let c0_i32_287_r34 : BitVec 32 := 0#32
  ![arg34.toNat, 0]
@[reducible] def k0_t26_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off298 (k0_t26 : Fin k0_t26_loop.trips) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk257 (v464 : IVec S16 32) : Prop :=
  (∀ a x, ((![v464] : Fin 1 → IVec S16 32) a x).toNat < S100000.size a)
instance k0_chk257.dec : ∀ (v464 : IVec S16 32), Decidable (k0_chk257 v464) := fun v464 => decidable_of_iff' _ (Iff.of_eq (k0_chk257.eq_1 v464))
theorem k0_idx257_inb : ∀ (v464 : IVec S16 32) (k0_hw257 : k0_chk257 v464), ∀ a x, ((![v464] : Fin 1 → IVec S16 32) a x).toNat < S100000.size a := fun v464 k0_hw257 => k0_hw257
def k0_off299 (k0_t26 : Fin k0_t26_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v466 : BitVec 32 := Scalar.addi v461 c0_i32_288
  let v467 : Index := Scalar.indexCast v466
  ![v467.toNat]

def k0_chk258 (v471 : IVec S16 32) : Prop :=
  (∀ a x, ((![v471] : Fin 1 → IVec S16 32) a x).toNat < S100000.size a)
instance k0_chk258.dec : ∀ (v471 : IVec S16 32), Decidable (k0_chk258 v471) := fun v471 => decidable_of_iff' _ (Iff.of_eq (k0_chk258.eq_1 v471))
theorem k0_idx258_inb : ∀ (v471 : IVec S16 32) (k0_hw258 : k0_chk258 v471), ∀ a x, ((![v471] : Fin 1 → IVec S16 32) a x).toNat < S100000.size a := fun v471 k0_hw258 => k0_hw258
def k0_off300 (k0_t26 : Fin k0_t26_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v473 : BitVec 32 := Scalar.addi v461 c16_i32_289
  let v474 : Index := Scalar.indexCast v473
  ![v474.toNat]

def k0_chk259 (v478 : IVec S16 32) : Prop :=
  (∀ a x, ((![v478] : Fin 1 → IVec S16 32) a x).toNat < S100000.size a)
instance k0_chk259.dec : ∀ (v478 : IVec S16 32), Decidable (k0_chk259 v478) := fun v478 => decidable_of_iff' _ (Iff.of_eq (k0_chk259.eq_1 v478))
theorem k0_idx259_inb : ∀ (v478 : IVec S16 32) (k0_hw259 : k0_chk259 v478), ∀ a x, ((![v478] : Fin 1 → IVec S16 32) a x).toNat < S100000.size a := fun v478 k0_hw259 => k0_hw259
def k0_off301 (k0_t26 : Fin k0_t26_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v480 : BitVec 32 := Scalar.addi v461 c32_i32_291
  let v481 : Index := Scalar.indexCast v480
  ![v481.toNat]

def k0_chk260 (v485 : IVec S16 32) : Prop :=
  (∀ a x, ((![v485] : Fin 1 → IVec S16 32) a x).toNat < S100000.size a)
instance k0_chk260.dec : ∀ (v485 : IVec S16 32), Decidable (k0_chk260 v485) := fun v485 => decidable_of_iff' _ (Iff.of_eq (k0_chk260.eq_1 v485))
theorem k0_idx260_inb : ∀ (v485 : IVec S16 32) (k0_hw260 : k0_chk260 v485), ∀ a x, ((![v485] : Fin 1 → IVec S16 32) a x).toNat < S100000.size a := fun v485 k0_hw260 => k0_hw260
def k0_off302 (k0_t26 : Fin k0_t26_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v487 : BitVec 32 := Scalar.addi v461 c48_i32_292
  let v488 : Index := Scalar.indexCast v487
  ![v488.toNat]

def k0_chk261 (v492 : IVec S16 32) : Prop :=
  (∀ a x, ((![v492] : Fin 1 → IVec S16 32) a x).toNat < S100000.size a)
instance k0_chk261.dec : ∀ (v492 : IVec S16 32), Decidable (k0_chk261 v492) := fun v492 => decidable_of_iff' _ (Iff.of_eq (k0_chk261.eq_1 v492))
theorem k0_idx261_inb : ∀ (v492 : IVec S16 32) (k0_hw261 : k0_chk261 v492), ∀ a x, ((![v492] : Fin 1 → IVec S16 32) a x).toNat < S100000.size a := fun v492 k0_hw261 => k0_hw261
def k0_off303 (k0_t26 : Fin k0_t26_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v494 : BitVec 32 := Scalar.addi v461 c64_i32_293
  let v495 : Index := Scalar.indexCast v494
  ![v495.toNat]

def k0_chk262 (v499 : IVec S16 32) : Prop :=
  (∀ a x, ((![v499] : Fin 1 → IVec S16 32) a x).toNat < S100000.size a)
instance k0_chk262.dec : ∀ (v499 : IVec S16 32), Decidable (k0_chk262 v499) := fun v499 => decidable_of_iff' _ (Iff.of_eq (k0_chk262.eq_1 v499))
theorem k0_idx262_inb : ∀ (v499 : IVec S16 32) (k0_hw262 : k0_chk262 v499), ∀ a x, ((![v499] : Fin 1 → IVec S16 32) a x).toNat < S100000.size a := fun v499 k0_hw262 => k0_hw262
def k0_off304 (k0_t26 : Fin k0_t26_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v501 : BitVec 32 := Scalar.addi v461 c80_i32_294
  let v502 : Index := Scalar.indexCast v501
  ![v502.toNat]

def k0_chk263 (v506 : IVec S16 32) : Prop :=
  (∀ a x, ((![v506] : Fin 1 → IVec S16 32) a x).toNat < S100000.size a)
instance k0_chk263.dec : ∀ (v506 : IVec S16 32), Decidable (k0_chk263 v506) := fun v506 => decidable_of_iff' _ (Iff.of_eq (k0_chk263.eq_1 v506))
theorem k0_idx263_inb : ∀ (v506 : IVec S16 32) (k0_hw263 : k0_chk263 v506), ∀ a x, ((![v506] : Fin 1 → IVec S16 32) a x).toNat < S100000.size a := fun v506 k0_hw263 => k0_hw263
def k0_off305 (k0_t26 : Fin k0_t26_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v508 : BitVec 32 := Scalar.addi v461 c96_i32_295
  let v509 : Index := Scalar.indexCast v508
  ![v509.toNat]

def k0_chk264 (v513 : IVec S16 32) : Prop :=
  (∀ a x, ((![v513] : Fin 1 → IVec S16 32) a x).toNat < S100000.size a)
instance k0_chk264.dec : ∀ (v513 : IVec S16 32), Decidable (k0_chk264 v513) := fun v513 => decidable_of_iff' _ (Iff.of_eq (k0_chk264.eq_1 v513))
theorem k0_idx264_inb : ∀ (v513 : IVec S16 32) (k0_hw264 : k0_chk264 v513), ∀ a x, ((![v513] : Fin 1 → IVec S16 32) a x).toNat < S100000.size a := fun v513 k0_hw264 => k0_hw264
def k0_off306 (k0_t26 : Fin k0_t26_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v515 : BitVec 32 := Scalar.addi v461 c112_i32_296
  let v516 : Index := Scalar.indexCast v515
  ![v516.toNat]

def k0_chk265 (v520 : IVec S16 32) : Prop :=
  (∀ a x, ((![v520] : Fin 1 → IVec S16 32) a x).toNat < S100000.size a)
instance k0_chk265.dec : ∀ (v520 : IVec S16 32), Decidable (k0_chk265 v520) := fun v520 => decidable_of_iff' _ (Iff.of_eq (k0_chk265.eq_1 v520))
theorem k0_idx265_inb : ∀ (v520 : IVec S16 32) (k0_hw265 : k0_chk265 v520), ∀ a x, ((![v520] : Fin 1 → IVec S16 32) a x).toNat < S100000.size a := fun v520 k0_hw265 => k0_hw265
def k0_off307 (k0_t26 : Fin k0_t26_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v522 : BitVec 32 := Scalar.addi v461 c128_i32_297
  let v523 : Index := Scalar.indexCast v522
  ![v523.toNat]

def k0_chk266 (v527 : IVec S16 32) : Prop :=
  (∀ a x, ((![v527] : Fin 1 → IVec S16 32) a x).toNat < S100000.size a)
instance k0_chk266.dec : ∀ (v527 : IVec S16 32), Decidable (k0_chk266 v527) := fun v527 => decidable_of_iff' _ (Iff.of_eq (k0_chk266.eq_1 v527))
theorem k0_idx266_inb : ∀ (v527 : IVec S16 32) (k0_hw266 : k0_chk266 v527), ∀ a x, ((![v527] : Fin 1 → IVec S16 32) a x).toNat < S100000.size a := fun v527 k0_hw266 => k0_hw266
def k0_off308 (k0_t26 : Fin k0_t26_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v529 : BitVec 32 := Scalar.addi v461 c144_i32_299
  let v530 : Index := Scalar.indexCast v529
  ![v530.toNat]

def k0_chk267 (v534 : IVec S16 32) : Prop :=
  (∀ a x, ((![v534] : Fin 1 → IVec S16 32) a x).toNat < S100000.size a)
instance k0_chk267.dec : ∀ (v534 : IVec S16 32), Decidable (k0_chk267 v534) := fun v534 => decidable_of_iff' _ (Iff.of_eq (k0_chk267.eq_1 v534))
theorem k0_idx267_inb : ∀ (v534 : IVec S16 32) (k0_hw267 : k0_chk267 v534), ∀ a x, ((![v534] : Fin 1 → IVec S16 32) a x).toNat < S100000.size a := fun v534 k0_hw267 => k0_hw267
def k0_off309 (k0_t26 : Fin k0_t26_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v536 : BitVec 32 := Scalar.addi v461 c160_i32_300
  let v537 : Index := Scalar.indexCast v536
  ![v537.toNat]

def k0_chk268 (v541 : IVec S16 32) : Prop :=
  (∀ a x, ((![v541] : Fin 1 → IVec S16 32) a x).toNat < S100000.size a)
instance k0_chk268.dec : ∀ (v541 : IVec S16 32), Decidable (k0_chk268 v541) := fun v541 => decidable_of_iff' _ (Iff.of_eq (k0_chk268.eq_1 v541))
theorem k0_idx268_inb : ∀ (v541 : IVec S16 32) (k0_hw268 : k0_chk268 v541), ∀ a x, ((![v541] : Fin 1 → IVec S16 32) a x).toNat < S100000.size a := fun v541 k0_hw268 => k0_hw268
def k0_off310 (k0_t26 : Fin k0_t26_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v543 : BitVec 32 := Scalar.addi v461 c176_i32_301
  let v544 : Index := Scalar.indexCast v543
  ![v544.toNat]

def k0_chk269 (v548 : IVec S16 32) : Prop :=
  (∀ a x, ((![v548] : Fin 1 → IVec S16 32) a x).toNat < S100000.size a)
instance k0_chk269.dec : ∀ (v548 : IVec S16 32), Decidable (k0_chk269 v548) := fun v548 => decidable_of_iff' _ (Iff.of_eq (k0_chk269.eq_1 v548))
theorem k0_idx269_inb : ∀ (v548 : IVec S16 32) (k0_hw269 : k0_chk269 v548), ∀ a x, ((![v548] : Fin 1 → IVec S16 32) a x).toNat < S100000.size a := fun v548 k0_hw269 => k0_hw269
def k0_off311 (k0_t26 : Fin k0_t26_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v550 : BitVec 32 := Scalar.addi v461 c192_i32_302
  let v551 : Index := Scalar.indexCast v550
  ![v551.toNat]

def k0_chk270 (v555 : IVec S16 32) : Prop :=
  (∀ a x, ((![v555] : Fin 1 → IVec S16 32) a x).toNat < S100000.size a)
instance k0_chk270.dec : ∀ (v555 : IVec S16 32), Decidable (k0_chk270 v555) := fun v555 => decidable_of_iff' _ (Iff.of_eq (k0_chk270.eq_1 v555))
theorem k0_idx270_inb : ∀ (v555 : IVec S16 32) (k0_hw270 : k0_chk270 v555), ∀ a x, ((![v555] : Fin 1 → IVec S16 32) a x).toNat < S100000.size a := fun v555 k0_hw270 => k0_hw270
def k0_off312 (k0_t26 : Fin k0_t26_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v557 : BitVec 32 := Scalar.addi v461 c208_i32_303
  let v558 : Index := Scalar.indexCast v557
  ![v558.toNat]

def k0_chk271 (v562 : IVec S16 32) : Prop :=
  (∀ a x, ((![v562] : Fin 1 → IVec S16 32) a x).toNat < S100000.size a)
instance k0_chk271.dec : ∀ (v562 : IVec S16 32), Decidable (k0_chk271 v562) := fun v562 => decidable_of_iff' _ (Iff.of_eq (k0_chk271.eq_1 v562))
theorem k0_idx271_inb : ∀ (v562 : IVec S16 32) (k0_hw271 : k0_chk271 v562), ∀ a x, ((![v562] : Fin 1 → IVec S16 32) a x).toNat < S100000.size a := fun v562 k0_hw271 => k0_hw271
def k0_off313 (k0_t26 : Fin k0_t26_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let v564 : BitVec 32 := Scalar.addi v461 c224_i32_304
  let v565 : Index := Scalar.indexCast v564
  ![v565.toNat]

def k0_chk272 (v569 : IVec S16 32) : Prop :=
  (∀ a x, ((![v569] : Fin 1 → IVec S16 32) a x).toNat < S100000.size a)
instance k0_chk272.dec : ∀ (v569 : IVec S16 32), Decidable (k0_chk272 v569) := fun v569 => decidable_of_iff' _ (Iff.of_eq (k0_chk272.eq_1 v569))
theorem k0_idx272_inb : ∀ (v569 : IVec S16 32) (k0_hw272 : k0_chk272 v569), ∀ a x, ((![v569] : Fin 1 → IVec S16 32) a x).toNat < S100000.size a := fun v569 k0_hw272 => k0_hw272
def k0_off314 (k0_t26 : Fin k0_t26_loop.trips) : Fin 1 → Nat :=
  let c0_i32_275 : BitVec 32 := 0#32
  let c1_i32_277 : BitVec 32 := 1#32
  let arg36 : BitVec 32 := Scf.iv c0_i32_275 c1_i32_277 k0_t26
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off315 (i : grid0.Coords) (k0_t25 : Fin (k0_t25_loop i).trips) : Fin 2 → Nat :=
  let c144_i32_279 : BitVec 32 := 144#32
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c1_i32_62 : BitVec 32 := 1#32
  let arg34 : BitVec 32 := Scf.iv v105 c1_i32_62 k0_t25
  let v457 : BitVec 32 := Scalar.addi c144_i32_279 arg34
  let c0_i32_287_r35 : BitVec 32 := 0#32
  ![v457.toNat, 0]
@[reducible] def k0_t27_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off316 (k0_t27 : Fin k0_t27_loop.trips) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk273 (v464 : IVec S16 32) : Prop :=
  (∀ a x, ((![v464] : Fin 1 → IVec S16 32) a x).toNat < S100000.size a)
instance k0_chk273.dec : ∀ (v464 : IVec S16 32), Decidable (k0_chk273 v464) := fun v464 => decidable_of_iff' _ (Iff.of_eq (k0_chk273.eq_1 v464))
theorem k0_idx273_inb : ∀ (v464 : IVec S16 32) (k0_hw273 : k0_chk273 v464), ∀ a x, ((![v464] : Fin 1 → IVec S16 32) a x).toNat < S100000.size a := fun v464 k0_hw273 => k0_hw273
def k0_off317 (k0_t27 : Fin k0_t27_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v466 : BitVec 32 := Scalar.addi v461 c0_i32_288
  let v467 : Index := Scalar.indexCast v466
  ![v467.toNat]

def k0_chk274 (v471 : IVec S16 32) : Prop :=
  (∀ a x, ((![v471] : Fin 1 → IVec S16 32) a x).toNat < S100000.size a)
instance k0_chk274.dec : ∀ (v471 : IVec S16 32), Decidable (k0_chk274 v471) := fun v471 => decidable_of_iff' _ (Iff.of_eq (k0_chk274.eq_1 v471))
theorem k0_idx274_inb : ∀ (v471 : IVec S16 32) (k0_hw274 : k0_chk274 v471), ∀ a x, ((![v471] : Fin 1 → IVec S16 32) a x).toNat < S100000.size a := fun v471 k0_hw274 => k0_hw274
def k0_off318 (k0_t27 : Fin k0_t27_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v473 : BitVec 32 := Scalar.addi v461 c16_i32_289
  let v474 : Index := Scalar.indexCast v473
  ![v474.toNat]

def k0_chk275 (v478 : IVec S16 32) : Prop :=
  (∀ a x, ((![v478] : Fin 1 → IVec S16 32) a x).toNat < S100000.size a)
instance k0_chk275.dec : ∀ (v478 : IVec S16 32), Decidable (k0_chk275 v478) := fun v478 => decidable_of_iff' _ (Iff.of_eq (k0_chk275.eq_1 v478))
theorem k0_idx275_inb : ∀ (v478 : IVec S16 32) (k0_hw275 : k0_chk275 v478), ∀ a x, ((![v478] : Fin 1 → IVec S16 32) a x).toNat < S100000.size a := fun v478 k0_hw275 => k0_hw275
def k0_off319 (k0_t27 : Fin k0_t27_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v480 : BitVec 32 := Scalar.addi v461 c32_i32_291
  let v481 : Index := Scalar.indexCast v480
  ![v481.toNat]

def k0_chk276 (v485 : IVec S16 32) : Prop :=
  (∀ a x, ((![v485] : Fin 1 → IVec S16 32) a x).toNat < S100000.size a)
instance k0_chk276.dec : ∀ (v485 : IVec S16 32), Decidable (k0_chk276 v485) := fun v485 => decidable_of_iff' _ (Iff.of_eq (k0_chk276.eq_1 v485))
theorem k0_idx276_inb : ∀ (v485 : IVec S16 32) (k0_hw276 : k0_chk276 v485), ∀ a x, ((![v485] : Fin 1 → IVec S16 32) a x).toNat < S100000.size a := fun v485 k0_hw276 => k0_hw276
def k0_off320 (k0_t27 : Fin k0_t27_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v487 : BitVec 32 := Scalar.addi v461 c48_i32_292
  let v488 : Index := Scalar.indexCast v487
  ![v488.toNat]

def k0_chk277 (v492 : IVec S16 32) : Prop :=
  (∀ a x, ((![v492] : Fin 1 → IVec S16 32) a x).toNat < S100000.size a)
instance k0_chk277.dec : ∀ (v492 : IVec S16 32), Decidable (k0_chk277 v492) := fun v492 => decidable_of_iff' _ (Iff.of_eq (k0_chk277.eq_1 v492))
theorem k0_idx277_inb : ∀ (v492 : IVec S16 32) (k0_hw277 : k0_chk277 v492), ∀ a x, ((![v492] : Fin 1 → IVec S16 32) a x).toNat < S100000.size a := fun v492 k0_hw277 => k0_hw277
def k0_off321 (k0_t27 : Fin k0_t27_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v494 : BitVec 32 := Scalar.addi v461 c64_i32_293
  let v495 : Index := Scalar.indexCast v494
  ![v495.toNat]

def k0_chk278 (v499 : IVec S16 32) : Prop :=
  (∀ a x, ((![v499] : Fin 1 → IVec S16 32) a x).toNat < S100000.size a)
instance k0_chk278.dec : ∀ (v499 : IVec S16 32), Decidable (k0_chk278 v499) := fun v499 => decidable_of_iff' _ (Iff.of_eq (k0_chk278.eq_1 v499))
theorem k0_idx278_inb : ∀ (v499 : IVec S16 32) (k0_hw278 : k0_chk278 v499), ∀ a x, ((![v499] : Fin 1 → IVec S16 32) a x).toNat < S100000.size a := fun v499 k0_hw278 => k0_hw278
def k0_off322 (k0_t27 : Fin k0_t27_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v501 : BitVec 32 := Scalar.addi v461 c80_i32_294
  let v502 : Index := Scalar.indexCast v501
  ![v502.toNat]

def k0_chk279 (v506 : IVec S16 32) : Prop :=
  (∀ a x, ((![v506] : Fin 1 → IVec S16 32) a x).toNat < S100000.size a)
instance k0_chk279.dec : ∀ (v506 : IVec S16 32), Decidable (k0_chk279 v506) := fun v506 => decidable_of_iff' _ (Iff.of_eq (k0_chk279.eq_1 v506))
theorem k0_idx279_inb : ∀ (v506 : IVec S16 32) (k0_hw279 : k0_chk279 v506), ∀ a x, ((![v506] : Fin 1 → IVec S16 32) a x).toNat < S100000.size a := fun v506 k0_hw279 => k0_hw279
def k0_off323 (k0_t27 : Fin k0_t27_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v508 : BitVec 32 := Scalar.addi v461 c96_i32_295
  let v509 : Index := Scalar.indexCast v508
  ![v509.toNat]

def k0_chk280 (v513 : IVec S16 32) : Prop :=
  (∀ a x, ((![v513] : Fin 1 → IVec S16 32) a x).toNat < S100000.size a)
instance k0_chk280.dec : ∀ (v513 : IVec S16 32), Decidable (k0_chk280 v513) := fun v513 => decidable_of_iff' _ (Iff.of_eq (k0_chk280.eq_1 v513))
theorem k0_idx280_inb : ∀ (v513 : IVec S16 32) (k0_hw280 : k0_chk280 v513), ∀ a x, ((![v513] : Fin 1 → IVec S16 32) a x).toNat < S100000.size a := fun v513 k0_hw280 => k0_hw280
def k0_off324 (k0_t27 : Fin k0_t27_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v515 : BitVec 32 := Scalar.addi v461 c112_i32_296
  let v516 : Index := Scalar.indexCast v515
  ![v516.toNat]

def k0_chk281 (v520 : IVec S16 32) : Prop :=
  (∀ a x, ((![v520] : Fin 1 → IVec S16 32) a x).toNat < S100000.size a)
instance k0_chk281.dec : ∀ (v520 : IVec S16 32), Decidable (k0_chk281 v520) := fun v520 => decidable_of_iff' _ (Iff.of_eq (k0_chk281.eq_1 v520))
theorem k0_idx281_inb : ∀ (v520 : IVec S16 32) (k0_hw281 : k0_chk281 v520), ∀ a x, ((![v520] : Fin 1 → IVec S16 32) a x).toNat < S100000.size a := fun v520 k0_hw281 => k0_hw281
def k0_off325 (k0_t27 : Fin k0_t27_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v522 : BitVec 32 := Scalar.addi v461 c128_i32_297
  let v523 : Index := Scalar.indexCast v522
  ![v523.toNat]

def k0_chk282 (v527 : IVec S16 32) : Prop :=
  (∀ a x, ((![v527] : Fin 1 → IVec S16 32) a x).toNat < S100000.size a)
instance k0_chk282.dec : ∀ (v527 : IVec S16 32), Decidable (k0_chk282 v527) := fun v527 => decidable_of_iff' _ (Iff.of_eq (k0_chk282.eq_1 v527))
theorem k0_idx282_inb : ∀ (v527 : IVec S16 32) (k0_hw282 : k0_chk282 v527), ∀ a x, ((![v527] : Fin 1 → IVec S16 32) a x).toNat < S100000.size a := fun v527 k0_hw282 => k0_hw282
def k0_off326 (k0_t27 : Fin k0_t27_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v529 : BitVec 32 := Scalar.addi v461 c144_i32_299
  let v530 : Index := Scalar.indexCast v529
  ![v530.toNat]

def k0_chk283 (v534 : IVec S16 32) : Prop :=
  (∀ a x, ((![v534] : Fin 1 → IVec S16 32) a x).toNat < S100000.size a)
instance k0_chk283.dec : ∀ (v534 : IVec S16 32), Decidable (k0_chk283 v534) := fun v534 => decidable_of_iff' _ (Iff.of_eq (k0_chk283.eq_1 v534))
theorem k0_idx283_inb : ∀ (v534 : IVec S16 32) (k0_hw283 : k0_chk283 v534), ∀ a x, ((![v534] : Fin 1 → IVec S16 32) a x).toNat < S100000.size a := fun v534 k0_hw283 => k0_hw283
def k0_off327 (k0_t27 : Fin k0_t27_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v536 : BitVec 32 := Scalar.addi v461 c160_i32_300
  let v537 : Index := Scalar.indexCast v536
  ![v537.toNat]

def k0_chk284 (v541 : IVec S16 32) : Prop :=
  (∀ a x, ((![v541] : Fin 1 → IVec S16 32) a x).toNat < S100000.size a)
instance k0_chk284.dec : ∀ (v541 : IVec S16 32), Decidable (k0_chk284 v541) := fun v541 => decidable_of_iff' _ (Iff.of_eq (k0_chk284.eq_1 v541))
theorem k0_idx284_inb : ∀ (v541 : IVec S16 32) (k0_hw284 : k0_chk284 v541), ∀ a x, ((![v541] : Fin 1 → IVec S16 32) a x).toNat < S100000.size a := fun v541 k0_hw284 => k0_hw284
def k0_off328 (k0_t27 : Fin k0_t27_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v543 : BitVec 32 := Scalar.addi v461 c176_i32_301
  let v544 : Index := Scalar.indexCast v543
  ![v544.toNat]

def k0_chk285 (v548 : IVec S16 32) : Prop :=
  (∀ a x, ((![v548] : Fin 1 → IVec S16 32) a x).toNat < S100000.size a)
instance k0_chk285.dec : ∀ (v548 : IVec S16 32), Decidable (k0_chk285 v548) := fun v548 => decidable_of_iff' _ (Iff.of_eq (k0_chk285.eq_1 v548))
theorem k0_idx285_inb : ∀ (v548 : IVec S16 32) (k0_hw285 : k0_chk285 v548), ∀ a x, ((![v548] : Fin 1 → IVec S16 32) a x).toNat < S100000.size a := fun v548 k0_hw285 => k0_hw285
def k0_off329 (k0_t27 : Fin k0_t27_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v550 : BitVec 32 := Scalar.addi v461 c192_i32_302
  let v551 : Index := Scalar.indexCast v550
  ![v551.toNat]

def k0_chk286 (v555 : IVec S16 32) : Prop :=
  (∀ a x, ((![v555] : Fin 1 → IVec S16 32) a x).toNat < S100000.size a)
instance k0_chk286.dec : ∀ (v555 : IVec S16 32), Decidable (k0_chk286 v555) := fun v555 => decidable_of_iff' _ (Iff.of_eq (k0_chk286.eq_1 v555))
theorem k0_idx286_inb : ∀ (v555 : IVec S16 32) (k0_hw286 : k0_chk286 v555), ∀ a x, ((![v555] : Fin 1 → IVec S16 32) a x).toNat < S100000.size a := fun v555 k0_hw286 => k0_hw286
def k0_off330 (k0_t27 : Fin k0_t27_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v557 : BitVec 32 := Scalar.addi v461 c208_i32_303
  let v558 : Index := Scalar.indexCast v557
  ![v558.toNat]

def k0_chk287 (v562 : IVec S16 32) : Prop :=
  (∀ a x, ((![v562] : Fin 1 → IVec S16 32) a x).toNat < S100000.size a)
instance k0_chk287.dec : ∀ (v562 : IVec S16 32), Decidable (k0_chk287 v562) := fun v562 => decidable_of_iff' _ (Iff.of_eq (k0_chk287.eq_1 v562))
theorem k0_idx287_inb : ∀ (v562 : IVec S16 32) (k0_hw287 : k0_chk287 v562), ∀ a x, ((![v562] : Fin 1 → IVec S16 32) a x).toNat < S100000.size a := fun v562 k0_hw287 => k0_hw287
def k0_off331 (k0_t27 : Fin k0_t27_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let v564 : BitVec 32 := Scalar.addi v461 c224_i32_304
  let v565 : Index := Scalar.indexCast v564
  ![v565.toNat]

def k0_chk288 (v569 : IVec S16 32) : Prop :=
  (∀ a x, ((![v569] : Fin 1 → IVec S16 32) a x).toNat < S100000.size a)
instance k0_chk288.dec : ∀ (v569 : IVec S16 32), Decidable (k0_chk288 v569) := fun v569 => decidable_of_iff' _ (Iff.of_eq (k0_chk288.eq_1 v569))
theorem k0_idx288_inb : ∀ (v569 : IVec S16 32) (k0_hw288 : k0_chk288 v569), ∀ a x, ((![v569] : Fin 1 → IVec S16 32) a x).toNat < S100000.size a := fun v569 k0_hw288 => k0_hw288
def k0_off332 (k0_t27 : Fin k0_t27_loop.trips) : Fin 1 → Nat :=
  let c0_i32_281 : BitVec 32 := 0#32
  let c1_i32_283 : BitVec 32 := 1#32
  let arg36 : BitVec 32 := Scf.iv c0_i32_281 c1_i32_283 k0_t27
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off333 (i : grid0.Coords) (k0_t25 : Fin (k0_t25_loop i).trips) : Fin 2 → Nat :=
  let c144_i32_285 : BitVec 32 := 144#32
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c1_i32_62 : BitVec 32 := 1#32
  let arg34 : BitVec 32 := Scf.iv v105 c1_i32_62 k0_t25
  let v460 : BitVec 32 := Scalar.addi c144_i32_285 arg34
  let c8192_i32_r36 : BitVec 32 := 8192#32
  ![v460.toNat, 8192]
@[reducible] def k0_t28_loop (i : grid0.Coords) : Scf.Loop 32 :=
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c36_i32_58 : BitVec 32 := 36#32
  let c0_i32_57 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_56 : BitVec 32 := 144#32
  let v106 : BitVec 32 := Scalar.subi v38 c144_i32_56
  let v107 : BitVec 32 := Scalar.maxsi c0_i32_57 v106
  let v108 : BitVec 32 := Scalar.minsi c36_i32_58 v107
  let v112 : BitVec 32 := Scalar.subi v108 v105
  let c1_i32_61 : BitVec 32 := 1#32
  let v114 : BitVec 32 := Scalar.divsi v112 c1_i32_61
  let v115 : BitVec 32 := Scalar.muli v114 c1_i32_61
  let v116 : BitVec 32 := Scalar.addi v105 v115
  let v113 : BitVec 32 := Scalar.addi v105 v112
  let c1_i32_63 : BitVec 32 := 1#32
  ⟨v116, v113, c1_i32_63⟩
def k0_off334 (i : grid0.Coords) (k0_t28 : Fin (k0_t28_loop i).trips) : Fin 2 → Nat :=
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c36_i32_58 : BitVec 32 := 36#32
  let c0_i32_57 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_56 : BitVec 32 := 144#32
  let v106 : BitVec 32 := Scalar.subi v38 c144_i32_56
  let v107 : BitVec 32 := Scalar.maxsi c0_i32_57 v106
  let v108 : BitVec 32 := Scalar.minsi c36_i32_58 v107
  let v112 : BitVec 32 := Scalar.subi v108 v105
  let c1_i32_61 : BitVec 32 := 1#32
  let v114 : BitVec 32 := Scalar.divsi v112 c1_i32_61
  let v115 : BitVec 32 := Scalar.muli v114 c1_i32_61
  let v116 : BitVec 32 := Scalar.addi v105 v115
  let c1_i32_63 : BitVec 32 := 1#32
  let arg34 : BitVec 32 := Scf.iv v116 c1_i32_63 k0_t28
  let c0_i32_287_r37 : BitVec 32 := 0#32
  ![arg34.toNat, 0]
@[reducible] def k0_t29_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off335 (k0_t29 : Fin k0_t29_loop.trips) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk289 (v464 : IVec S16 32) : Prop :=
  (∀ a x, ((![v464] : Fin 1 → IVec S16 32) a x).toNat < S100000.size a)
instance k0_chk289.dec : ∀ (v464 : IVec S16 32), Decidable (k0_chk289 v464) := fun v464 => decidable_of_iff' _ (Iff.of_eq (k0_chk289.eq_1 v464))
theorem k0_idx289_inb : ∀ (v464 : IVec S16 32) (k0_hw289 : k0_chk289 v464), ∀ a x, ((![v464] : Fin 1 → IVec S16 32) a x).toNat < S100000.size a := fun v464 k0_hw289 => k0_hw289
def k0_off336 (k0_t29 : Fin k0_t29_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v466 : BitVec 32 := Scalar.addi v461 c0_i32_288
  let v467 : Index := Scalar.indexCast v466
  ![v467.toNat]

def k0_chk290 (v471 : IVec S16 32) : Prop :=
  (∀ a x, ((![v471] : Fin 1 → IVec S16 32) a x).toNat < S100000.size a)
instance k0_chk290.dec : ∀ (v471 : IVec S16 32), Decidable (k0_chk290 v471) := fun v471 => decidable_of_iff' _ (Iff.of_eq (k0_chk290.eq_1 v471))
theorem k0_idx290_inb : ∀ (v471 : IVec S16 32) (k0_hw290 : k0_chk290 v471), ∀ a x, ((![v471] : Fin 1 → IVec S16 32) a x).toNat < S100000.size a := fun v471 k0_hw290 => k0_hw290
def k0_off337 (k0_t29 : Fin k0_t29_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v473 : BitVec 32 := Scalar.addi v461 c16_i32_289
  let v474 : Index := Scalar.indexCast v473
  ![v474.toNat]

def k0_chk291 (v478 : IVec S16 32) : Prop :=
  (∀ a x, ((![v478] : Fin 1 → IVec S16 32) a x).toNat < S100000.size a)
instance k0_chk291.dec : ∀ (v478 : IVec S16 32), Decidable (k0_chk291 v478) := fun v478 => decidable_of_iff' _ (Iff.of_eq (k0_chk291.eq_1 v478))
theorem k0_idx291_inb : ∀ (v478 : IVec S16 32) (k0_hw291 : k0_chk291 v478), ∀ a x, ((![v478] : Fin 1 → IVec S16 32) a x).toNat < S100000.size a := fun v478 k0_hw291 => k0_hw291
def k0_off338 (k0_t29 : Fin k0_t29_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v480 : BitVec 32 := Scalar.addi v461 c32_i32_291
  let v481 : Index := Scalar.indexCast v480
  ![v481.toNat]

def k0_chk292 (v485 : IVec S16 32) : Prop :=
  (∀ a x, ((![v485] : Fin 1 → IVec S16 32) a x).toNat < S100000.size a)
instance k0_chk292.dec : ∀ (v485 : IVec S16 32), Decidable (k0_chk292 v485) := fun v485 => decidable_of_iff' _ (Iff.of_eq (k0_chk292.eq_1 v485))
theorem k0_idx292_inb : ∀ (v485 : IVec S16 32) (k0_hw292 : k0_chk292 v485), ∀ a x, ((![v485] : Fin 1 → IVec S16 32) a x).toNat < S100000.size a := fun v485 k0_hw292 => k0_hw292
def k0_off339 (k0_t29 : Fin k0_t29_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v487 : BitVec 32 := Scalar.addi v461 c48_i32_292
  let v488 : Index := Scalar.indexCast v487
  ![v488.toNat]

def k0_chk293 (v492 : IVec S16 32) : Prop :=
  (∀ a x, ((![v492] : Fin 1 → IVec S16 32) a x).toNat < S100000.size a)
instance k0_chk293.dec : ∀ (v492 : IVec S16 32), Decidable (k0_chk293 v492) := fun v492 => decidable_of_iff' _ (Iff.of_eq (k0_chk293.eq_1 v492))
theorem k0_idx293_inb : ∀ (v492 : IVec S16 32) (k0_hw293 : k0_chk293 v492), ∀ a x, ((![v492] : Fin 1 → IVec S16 32) a x).toNat < S100000.size a := fun v492 k0_hw293 => k0_hw293
def k0_off340 (k0_t29 : Fin k0_t29_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v494 : BitVec 32 := Scalar.addi v461 c64_i32_293
  let v495 : Index := Scalar.indexCast v494
  ![v495.toNat]

def k0_chk294 (v499 : IVec S16 32) : Prop :=
  (∀ a x, ((![v499] : Fin 1 → IVec S16 32) a x).toNat < S100000.size a)
instance k0_chk294.dec : ∀ (v499 : IVec S16 32), Decidable (k0_chk294 v499) := fun v499 => decidable_of_iff' _ (Iff.of_eq (k0_chk294.eq_1 v499))
theorem k0_idx294_inb : ∀ (v499 : IVec S16 32) (k0_hw294 : k0_chk294 v499), ∀ a x, ((![v499] : Fin 1 → IVec S16 32) a x).toNat < S100000.size a := fun v499 k0_hw294 => k0_hw294
def k0_off341 (k0_t29 : Fin k0_t29_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v501 : BitVec 32 := Scalar.addi v461 c80_i32_294
  let v502 : Index := Scalar.indexCast v501
  ![v502.toNat]

def k0_chk295 (v506 : IVec S16 32) : Prop :=
  (∀ a x, ((![v506] : Fin 1 → IVec S16 32) a x).toNat < S100000.size a)
instance k0_chk295.dec : ∀ (v506 : IVec S16 32), Decidable (k0_chk295 v506) := fun v506 => decidable_of_iff' _ (Iff.of_eq (k0_chk295.eq_1 v506))
theorem k0_idx295_inb : ∀ (v506 : IVec S16 32) (k0_hw295 : k0_chk295 v506), ∀ a x, ((![v506] : Fin 1 → IVec S16 32) a x).toNat < S100000.size a := fun v506 k0_hw295 => k0_hw295
def k0_off342 (k0_t29 : Fin k0_t29_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v508 : BitVec 32 := Scalar.addi v461 c96_i32_295
  let v509 : Index := Scalar.indexCast v508
  ![v509.toNat]

def k0_chk296 (v513 : IVec S16 32) : Prop :=
  (∀ a x, ((![v513] : Fin 1 → IVec S16 32) a x).toNat < S100000.size a)
instance k0_chk296.dec : ∀ (v513 : IVec S16 32), Decidable (k0_chk296 v513) := fun v513 => decidable_of_iff' _ (Iff.of_eq (k0_chk296.eq_1 v513))
theorem k0_idx296_inb : ∀ (v513 : IVec S16 32) (k0_hw296 : k0_chk296 v513), ∀ a x, ((![v513] : Fin 1 → IVec S16 32) a x).toNat < S100000.size a := fun v513 k0_hw296 => k0_hw296
def k0_off343 (k0_t29 : Fin k0_t29_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v515 : BitVec 32 := Scalar.addi v461 c112_i32_296
  let v516 : Index := Scalar.indexCast v515
  ![v516.toNat]

def k0_chk297 (v520 : IVec S16 32) : Prop :=
  (∀ a x, ((![v520] : Fin 1 → IVec S16 32) a x).toNat < S100000.size a)
instance k0_chk297.dec : ∀ (v520 : IVec S16 32), Decidable (k0_chk297 v520) := fun v520 => decidable_of_iff' _ (Iff.of_eq (k0_chk297.eq_1 v520))
theorem k0_idx297_inb : ∀ (v520 : IVec S16 32) (k0_hw297 : k0_chk297 v520), ∀ a x, ((![v520] : Fin 1 → IVec S16 32) a x).toNat < S100000.size a := fun v520 k0_hw297 => k0_hw297
def k0_off344 (k0_t29 : Fin k0_t29_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v522 : BitVec 32 := Scalar.addi v461 c128_i32_297
  let v523 : Index := Scalar.indexCast v522
  ![v523.toNat]

def k0_chk298 (v527 : IVec S16 32) : Prop :=
  (∀ a x, ((![v527] : Fin 1 → IVec S16 32) a x).toNat < S100000.size a)
instance k0_chk298.dec : ∀ (v527 : IVec S16 32), Decidable (k0_chk298 v527) := fun v527 => decidable_of_iff' _ (Iff.of_eq (k0_chk298.eq_1 v527))
theorem k0_idx298_inb : ∀ (v527 : IVec S16 32) (k0_hw298 : k0_chk298 v527), ∀ a x, ((![v527] : Fin 1 → IVec S16 32) a x).toNat < S100000.size a := fun v527 k0_hw298 => k0_hw298
def k0_off345 (k0_t29 : Fin k0_t29_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v529 : BitVec 32 := Scalar.addi v461 c144_i32_299
  let v530 : Index := Scalar.indexCast v529
  ![v530.toNat]

def k0_chk299 (v534 : IVec S16 32) : Prop :=
  (∀ a x, ((![v534] : Fin 1 → IVec S16 32) a x).toNat < S100000.size a)
instance k0_chk299.dec : ∀ (v534 : IVec S16 32), Decidable (k0_chk299 v534) := fun v534 => decidable_of_iff' _ (Iff.of_eq (k0_chk299.eq_1 v534))
theorem k0_idx299_inb : ∀ (v534 : IVec S16 32) (k0_hw299 : k0_chk299 v534), ∀ a x, ((![v534] : Fin 1 → IVec S16 32) a x).toNat < S100000.size a := fun v534 k0_hw299 => k0_hw299
def k0_off346 (k0_t29 : Fin k0_t29_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v536 : BitVec 32 := Scalar.addi v461 c160_i32_300
  let v537 : Index := Scalar.indexCast v536
  ![v537.toNat]

def k0_chk300 (v541 : IVec S16 32) : Prop :=
  (∀ a x, ((![v541] : Fin 1 → IVec S16 32) a x).toNat < S100000.size a)
instance k0_chk300.dec : ∀ (v541 : IVec S16 32), Decidable (k0_chk300 v541) := fun v541 => decidable_of_iff' _ (Iff.of_eq (k0_chk300.eq_1 v541))
theorem k0_idx300_inb : ∀ (v541 : IVec S16 32) (k0_hw300 : k0_chk300 v541), ∀ a x, ((![v541] : Fin 1 → IVec S16 32) a x).toNat < S100000.size a := fun v541 k0_hw300 => k0_hw300
def k0_off347 (k0_t29 : Fin k0_t29_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v543 : BitVec 32 := Scalar.addi v461 c176_i32_301
  let v544 : Index := Scalar.indexCast v543
  ![v544.toNat]

def k0_chk301 (v548 : IVec S16 32) : Prop :=
  (∀ a x, ((![v548] : Fin 1 → IVec S16 32) a x).toNat < S100000.size a)
instance k0_chk301.dec : ∀ (v548 : IVec S16 32), Decidable (k0_chk301 v548) := fun v548 => decidable_of_iff' _ (Iff.of_eq (k0_chk301.eq_1 v548))
theorem k0_idx301_inb : ∀ (v548 : IVec S16 32) (k0_hw301 : k0_chk301 v548), ∀ a x, ((![v548] : Fin 1 → IVec S16 32) a x).toNat < S100000.size a := fun v548 k0_hw301 => k0_hw301
def k0_off348 (k0_t29 : Fin k0_t29_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v550 : BitVec 32 := Scalar.addi v461 c192_i32_302
  let v551 : Index := Scalar.indexCast v550
  ![v551.toNat]

def k0_chk302 (v555 : IVec S16 32) : Prop :=
  (∀ a x, ((![v555] : Fin 1 → IVec S16 32) a x).toNat < S100000.size a)
instance k0_chk302.dec : ∀ (v555 : IVec S16 32), Decidable (k0_chk302 v555) := fun v555 => decidable_of_iff' _ (Iff.of_eq (k0_chk302.eq_1 v555))
theorem k0_idx302_inb : ∀ (v555 : IVec S16 32) (k0_hw302 : k0_chk302 v555), ∀ a x, ((![v555] : Fin 1 → IVec S16 32) a x).toNat < S100000.size a := fun v555 k0_hw302 => k0_hw302
def k0_off349 (k0_t29 : Fin k0_t29_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v557 : BitVec 32 := Scalar.addi v461 c208_i32_303
  let v558 : Index := Scalar.indexCast v557
  ![v558.toNat]

def k0_chk303 (v562 : IVec S16 32) : Prop :=
  (∀ a x, ((![v562] : Fin 1 → IVec S16 32) a x).toNat < S100000.size a)
instance k0_chk303.dec : ∀ (v562 : IVec S16 32), Decidable (k0_chk303 v562) := fun v562 => decidable_of_iff' _ (Iff.of_eq (k0_chk303.eq_1 v562))
theorem k0_idx303_inb : ∀ (v562 : IVec S16 32) (k0_hw303 : k0_chk303 v562), ∀ a x, ((![v562] : Fin 1 → IVec S16 32) a x).toNat < S100000.size a := fun v562 k0_hw303 => k0_hw303
def k0_off350 (k0_t29 : Fin k0_t29_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let v564 : BitVec 32 := Scalar.addi v461 c224_i32_304
  let v565 : Index := Scalar.indexCast v564
  ![v565.toNat]

def k0_chk304 (v569 : IVec S16 32) : Prop :=
  (∀ a x, ((![v569] : Fin 1 → IVec S16 32) a x).toNat < S100000.size a)
instance k0_chk304.dec : ∀ (v569 : IVec S16 32), Decidable (k0_chk304 v569) := fun v569 => decidable_of_iff' _ (Iff.of_eq (k0_chk304.eq_1 v569))
theorem k0_idx304_inb : ∀ (v569 : IVec S16 32) (k0_hw304 : k0_chk304 v569), ∀ a x, ((![v569] : Fin 1 → IVec S16 32) a x).toNat < S100000.size a := fun v569 k0_hw304 => k0_hw304
def k0_off351 (k0_t29 : Fin k0_t29_loop.trips) : Fin 1 → Nat :=
  let c0_i32_275 : BitVec 32 := 0#32
  let c1_i32_277 : BitVec 32 := 1#32
  let arg36 : BitVec 32 := Scf.iv c0_i32_275 c1_i32_277 k0_t29
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off352 (i : grid0.Coords) (k0_t28 : Fin (k0_t28_loop i).trips) : Fin 2 → Nat :=
  let c144_i32_279 : BitVec 32 := 144#32
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c36_i32_58 : BitVec 32 := 36#32
  let c0_i32_57 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_56 : BitVec 32 := 144#32
  let v106 : BitVec 32 := Scalar.subi v38 c144_i32_56
  let v107 : BitVec 32 := Scalar.maxsi c0_i32_57 v106
  let v108 : BitVec 32 := Scalar.minsi c36_i32_58 v107
  let v112 : BitVec 32 := Scalar.subi v108 v105
  let c1_i32_61 : BitVec 32 := 1#32
  let v114 : BitVec 32 := Scalar.divsi v112 c1_i32_61
  let v115 : BitVec 32 := Scalar.muli v114 c1_i32_61
  let v116 : BitVec 32 := Scalar.addi v105 v115
  let c1_i32_63 : BitVec 32 := 1#32
  let arg34 : BitVec 32 := Scf.iv v116 c1_i32_63 k0_t28
  let v457 : BitVec 32 := Scalar.addi c144_i32_279 arg34
  let c0_i32_287_r38 : BitVec 32 := 0#32
  ![v457.toNat, 0]
@[reducible] def k0_t30_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off353 (k0_t30 : Fin k0_t30_loop.trips) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk305 (v464 : IVec S16 32) : Prop :=
  (∀ a x, ((![v464] : Fin 1 → IVec S16 32) a x).toNat < S100000.size a)
instance k0_chk305.dec : ∀ (v464 : IVec S16 32), Decidable (k0_chk305 v464) := fun v464 => decidable_of_iff' _ (Iff.of_eq (k0_chk305.eq_1 v464))
theorem k0_idx305_inb : ∀ (v464 : IVec S16 32) (k0_hw305 : k0_chk305 v464), ∀ a x, ((![v464] : Fin 1 → IVec S16 32) a x).toNat < S100000.size a := fun v464 k0_hw305 => k0_hw305
def k0_off354 (k0_t30 : Fin k0_t30_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v466 : BitVec 32 := Scalar.addi v461 c0_i32_288
  let v467 : Index := Scalar.indexCast v466
  ![v467.toNat]

def k0_chk306 (v471 : IVec S16 32) : Prop :=
  (∀ a x, ((![v471] : Fin 1 → IVec S16 32) a x).toNat < S100000.size a)
instance k0_chk306.dec : ∀ (v471 : IVec S16 32), Decidable (k0_chk306 v471) := fun v471 => decidable_of_iff' _ (Iff.of_eq (k0_chk306.eq_1 v471))
theorem k0_idx306_inb : ∀ (v471 : IVec S16 32) (k0_hw306 : k0_chk306 v471), ∀ a x, ((![v471] : Fin 1 → IVec S16 32) a x).toNat < S100000.size a := fun v471 k0_hw306 => k0_hw306
def k0_off355 (k0_t30 : Fin k0_t30_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v473 : BitVec 32 := Scalar.addi v461 c16_i32_289
  let v474 : Index := Scalar.indexCast v473
  ![v474.toNat]

def k0_chk307 (v478 : IVec S16 32) : Prop :=
  (∀ a x, ((![v478] : Fin 1 → IVec S16 32) a x).toNat < S100000.size a)
instance k0_chk307.dec : ∀ (v478 : IVec S16 32), Decidable (k0_chk307 v478) := fun v478 => decidable_of_iff' _ (Iff.of_eq (k0_chk307.eq_1 v478))
theorem k0_idx307_inb : ∀ (v478 : IVec S16 32) (k0_hw307 : k0_chk307 v478), ∀ a x, ((![v478] : Fin 1 → IVec S16 32) a x).toNat < S100000.size a := fun v478 k0_hw307 => k0_hw307
def k0_off356 (k0_t30 : Fin k0_t30_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v480 : BitVec 32 := Scalar.addi v461 c32_i32_291
  let v481 : Index := Scalar.indexCast v480
  ![v481.toNat]

def k0_chk308 (v485 : IVec S16 32) : Prop :=
  (∀ a x, ((![v485] : Fin 1 → IVec S16 32) a x).toNat < S100000.size a)
instance k0_chk308.dec : ∀ (v485 : IVec S16 32), Decidable (k0_chk308 v485) := fun v485 => decidable_of_iff' _ (Iff.of_eq (k0_chk308.eq_1 v485))
theorem k0_idx308_inb : ∀ (v485 : IVec S16 32) (k0_hw308 : k0_chk308 v485), ∀ a x, ((![v485] : Fin 1 → IVec S16 32) a x).toNat < S100000.size a := fun v485 k0_hw308 => k0_hw308
def k0_off357 (k0_t30 : Fin k0_t30_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v487 : BitVec 32 := Scalar.addi v461 c48_i32_292
  let v488 : Index := Scalar.indexCast v487
  ![v488.toNat]

def k0_chk309 (v492 : IVec S16 32) : Prop :=
  (∀ a x, ((![v492] : Fin 1 → IVec S16 32) a x).toNat < S100000.size a)
instance k0_chk309.dec : ∀ (v492 : IVec S16 32), Decidable (k0_chk309 v492) := fun v492 => decidable_of_iff' _ (Iff.of_eq (k0_chk309.eq_1 v492))
theorem k0_idx309_inb : ∀ (v492 : IVec S16 32) (k0_hw309 : k0_chk309 v492), ∀ a x, ((![v492] : Fin 1 → IVec S16 32) a x).toNat < S100000.size a := fun v492 k0_hw309 => k0_hw309
def k0_off358 (k0_t30 : Fin k0_t30_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v494 : BitVec 32 := Scalar.addi v461 c64_i32_293
  let v495 : Index := Scalar.indexCast v494
  ![v495.toNat]

def k0_chk310 (v499 : IVec S16 32) : Prop :=
  (∀ a x, ((![v499] : Fin 1 → IVec S16 32) a x).toNat < S100000.size a)
instance k0_chk310.dec : ∀ (v499 : IVec S16 32), Decidable (k0_chk310 v499) := fun v499 => decidable_of_iff' _ (Iff.of_eq (k0_chk310.eq_1 v499))
theorem k0_idx310_inb : ∀ (v499 : IVec S16 32) (k0_hw310 : k0_chk310 v499), ∀ a x, ((![v499] : Fin 1 → IVec S16 32) a x).toNat < S100000.size a := fun v499 k0_hw310 => k0_hw310
def k0_off359 (k0_t30 : Fin k0_t30_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v501 : BitVec 32 := Scalar.addi v461 c80_i32_294
  let v502 : Index := Scalar.indexCast v501
  ![v502.toNat]

def k0_chk311 (v506 : IVec S16 32) : Prop :=
  (∀ a x, ((![v506] : Fin 1 → IVec S16 32) a x).toNat < S100000.size a)
instance k0_chk311.dec : ∀ (v506 : IVec S16 32), Decidable (k0_chk311 v506) := fun v506 => decidable_of_iff' _ (Iff.of_eq (k0_chk311.eq_1 v506))
theorem k0_idx311_inb : ∀ (v506 : IVec S16 32) (k0_hw311 : k0_chk311 v506), ∀ a x, ((![v506] : Fin 1 → IVec S16 32) a x).toNat < S100000.size a := fun v506 k0_hw311 => k0_hw311
def k0_off360 (k0_t30 : Fin k0_t30_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v508 : BitVec 32 := Scalar.addi v461 c96_i32_295
  let v509 : Index := Scalar.indexCast v508
  ![v509.toNat]

def k0_chk312 (v513 : IVec S16 32) : Prop :=
  (∀ a x, ((![v513] : Fin 1 → IVec S16 32) a x).toNat < S100000.size a)
instance k0_chk312.dec : ∀ (v513 : IVec S16 32), Decidable (k0_chk312 v513) := fun v513 => decidable_of_iff' _ (Iff.of_eq (k0_chk312.eq_1 v513))
theorem k0_idx312_inb : ∀ (v513 : IVec S16 32) (k0_hw312 : k0_chk312 v513), ∀ a x, ((![v513] : Fin 1 → IVec S16 32) a x).toNat < S100000.size a := fun v513 k0_hw312 => k0_hw312
def k0_off361 (k0_t30 : Fin k0_t30_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v515 : BitVec 32 := Scalar.addi v461 c112_i32_296
  let v516 : Index := Scalar.indexCast v515
  ![v516.toNat]

def k0_chk313 (v520 : IVec S16 32) : Prop :=
  (∀ a x, ((![v520] : Fin 1 → IVec S16 32) a x).toNat < S100000.size a)
instance k0_chk313.dec : ∀ (v520 : IVec S16 32), Decidable (k0_chk313 v520) := fun v520 => decidable_of_iff' _ (Iff.of_eq (k0_chk313.eq_1 v520))
theorem k0_idx313_inb : ∀ (v520 : IVec S16 32) (k0_hw313 : k0_chk313 v520), ∀ a x, ((![v520] : Fin 1 → IVec S16 32) a x).toNat < S100000.size a := fun v520 k0_hw313 => k0_hw313
def k0_off362 (k0_t30 : Fin k0_t30_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v522 : BitVec 32 := Scalar.addi v461 c128_i32_297
  let v523 : Index := Scalar.indexCast v522
  ![v523.toNat]

def k0_chk314 (v527 : IVec S16 32) : Prop :=
  (∀ a x, ((![v527] : Fin 1 → IVec S16 32) a x).toNat < S100000.size a)
instance k0_chk314.dec : ∀ (v527 : IVec S16 32), Decidable (k0_chk314 v527) := fun v527 => decidable_of_iff' _ (Iff.of_eq (k0_chk314.eq_1 v527))
theorem k0_idx314_inb : ∀ (v527 : IVec S16 32) (k0_hw314 : k0_chk314 v527), ∀ a x, ((![v527] : Fin 1 → IVec S16 32) a x).toNat < S100000.size a := fun v527 k0_hw314 => k0_hw314
def k0_off363 (k0_t30 : Fin k0_t30_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v529 : BitVec 32 := Scalar.addi v461 c144_i32_299
  let v530 : Index := Scalar.indexCast v529
  ![v530.toNat]

def k0_chk315 (v534 : IVec S16 32) : Prop :=
  (∀ a x, ((![v534] : Fin 1 → IVec S16 32) a x).toNat < S100000.size a)
instance k0_chk315.dec : ∀ (v534 : IVec S16 32), Decidable (k0_chk315 v534) := fun v534 => decidable_of_iff' _ (Iff.of_eq (k0_chk315.eq_1 v534))
theorem k0_idx315_inb : ∀ (v534 : IVec S16 32) (k0_hw315 : k0_chk315 v534), ∀ a x, ((![v534] : Fin 1 → IVec S16 32) a x).toNat < S100000.size a := fun v534 k0_hw315 => k0_hw315
def k0_off364 (k0_t30 : Fin k0_t30_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v536 : BitVec 32 := Scalar.addi v461 c160_i32_300
  let v537 : Index := Scalar.indexCast v536
  ![v537.toNat]

def k0_chk316 (v541 : IVec S16 32) : Prop :=
  (∀ a x, ((![v541] : Fin 1 → IVec S16 32) a x).toNat < S100000.size a)
instance k0_chk316.dec : ∀ (v541 : IVec S16 32), Decidable (k0_chk316 v541) := fun v541 => decidable_of_iff' _ (Iff.of_eq (k0_chk316.eq_1 v541))
theorem k0_idx316_inb : ∀ (v541 : IVec S16 32) (k0_hw316 : k0_chk316 v541), ∀ a x, ((![v541] : Fin 1 → IVec S16 32) a x).toNat < S100000.size a := fun v541 k0_hw316 => k0_hw316
def k0_off365 (k0_t30 : Fin k0_t30_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v543 : BitVec 32 := Scalar.addi v461 c176_i32_301
  let v544 : Index := Scalar.indexCast v543
  ![v544.toNat]

def k0_chk317 (v548 : IVec S16 32) : Prop :=
  (∀ a x, ((![v548] : Fin 1 → IVec S16 32) a x).toNat < S100000.size a)
instance k0_chk317.dec : ∀ (v548 : IVec S16 32), Decidable (k0_chk317 v548) := fun v548 => decidable_of_iff' _ (Iff.of_eq (k0_chk317.eq_1 v548))
theorem k0_idx317_inb : ∀ (v548 : IVec S16 32) (k0_hw317 : k0_chk317 v548), ∀ a x, ((![v548] : Fin 1 → IVec S16 32) a x).toNat < S100000.size a := fun v548 k0_hw317 => k0_hw317
def k0_off366 (k0_t30 : Fin k0_t30_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v550 : BitVec 32 := Scalar.addi v461 c192_i32_302
  let v551 : Index := Scalar.indexCast v550
  ![v551.toNat]

def k0_chk318 (v555 : IVec S16 32) : Prop :=
  (∀ a x, ((![v555] : Fin 1 → IVec S16 32) a x).toNat < S100000.size a)
instance k0_chk318.dec : ∀ (v555 : IVec S16 32), Decidable (k0_chk318 v555) := fun v555 => decidable_of_iff' _ (Iff.of_eq (k0_chk318.eq_1 v555))
theorem k0_idx318_inb : ∀ (v555 : IVec S16 32) (k0_hw318 : k0_chk318 v555), ∀ a x, ((![v555] : Fin 1 → IVec S16 32) a x).toNat < S100000.size a := fun v555 k0_hw318 => k0_hw318
def k0_off367 (k0_t30 : Fin k0_t30_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v557 : BitVec 32 := Scalar.addi v461 c208_i32_303
  let v558 : Index := Scalar.indexCast v557
  ![v558.toNat]

def k0_chk319 (v562 : IVec S16 32) : Prop :=
  (∀ a x, ((![v562] : Fin 1 → IVec S16 32) a x).toNat < S100000.size a)
instance k0_chk319.dec : ∀ (v562 : IVec S16 32), Decidable (k0_chk319 v562) := fun v562 => decidable_of_iff' _ (Iff.of_eq (k0_chk319.eq_1 v562))
theorem k0_idx319_inb : ∀ (v562 : IVec S16 32) (k0_hw319 : k0_chk319 v562), ∀ a x, ((![v562] : Fin 1 → IVec S16 32) a x).toNat < S100000.size a := fun v562 k0_hw319 => k0_hw319
def k0_off368 (k0_t30 : Fin k0_t30_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let v564 : BitVec 32 := Scalar.addi v461 c224_i32_304
  let v565 : Index := Scalar.indexCast v564
  ![v565.toNat]

def k0_chk320 (v569 : IVec S16 32) : Prop :=
  (∀ a x, ((![v569] : Fin 1 → IVec S16 32) a x).toNat < S100000.size a)
instance k0_chk320.dec : ∀ (v569 : IVec S16 32), Decidable (k0_chk320 v569) := fun v569 => decidable_of_iff' _ (Iff.of_eq (k0_chk320.eq_1 v569))
theorem k0_idx320_inb : ∀ (v569 : IVec S16 32) (k0_hw320 : k0_chk320 v569), ∀ a x, ((![v569] : Fin 1 → IVec S16 32) a x).toNat < S100000.size a := fun v569 k0_hw320 => k0_hw320
def k0_off369 (k0_t30 : Fin k0_t30_loop.trips) : Fin 1 → Nat :=
  let c0_i32_281 : BitVec 32 := 0#32
  let c1_i32_283 : BitVec 32 := 1#32
  let arg36 : BitVec 32 := Scf.iv c0_i32_281 c1_i32_283 k0_t30
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off370 (i : grid0.Coords) (k0_t28 : Fin (k0_t28_loop i).trips) : Fin 2 → Nat :=
  let c144_i32_285 : BitVec 32 := 144#32
  let c36_i32_55 : BitVec 32 := 36#32
  let c0_i32_54 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c144_i32 : BitVec 32 := 144#32
  let v103 : BitVec 32 := Scalar.subi v19 c144_i32
  let v104 : BitVec 32 := Scalar.maxsi c0_i32_54 v103
  let v105 : BitVec 32 := Scalar.minsi c36_i32_55 v104
  let c36_i32_58 : BitVec 32 := 36#32
  let c0_i32_57 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c144_i32_56 : BitVec 32 := 144#32
  let v106 : BitVec 32 := Scalar.subi v38 c144_i32_56
  let v107 : BitVec 32 := Scalar.maxsi c0_i32_57 v106
  let v108 : BitVec 32 := Scalar.minsi c36_i32_58 v107
  let v112 : BitVec 32 := Scalar.subi v108 v105
  let c1_i32_61 : BitVec 32 := 1#32
  let v114 : BitVec 32 := Scalar.divsi v112 c1_i32_61
  let v115 : BitVec 32 := Scalar.muli v114 c1_i32_61
  let v116 : BitVec 32 := Scalar.addi v105 v115
  let c1_i32_63 : BitVec 32 := 1#32
  let arg34 : BitVec 32 := Scf.iv v116 c1_i32_63 k0_t28
  let v460 : BitVec 32 := Scalar.addi c144_i32_285 arg34
  let c8192_i32_r39 : BitVec 32 := 8192#32
  ![v460.toNat, 8192]
@[reducible] def k0_t31_loop (i : grid0.Coords) : Scf.Loop 32 :=
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c36_i32_68 : BitVec 32 := 36#32
  let c0_i32_67 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c180_i32_66 : BitVec 32 := 180#32
  let v122 : BitVec 32 := Scalar.subi v38 c180_i32_66
  let v123 : BitVec 32 := Scalar.maxsi c0_i32_67 v122
  let v124 : BitVec 32 := Scalar.minsi c36_i32_68 v123
  let v128 : BitVec 32 := Scalar.subi v124 v121
  let c1_i32_71 : BitVec 32 := 1#32
  let v130 : BitVec 32 := Scalar.divsi v128 c1_i32_71
  let v131 : BitVec 32 := Scalar.muli v130 c1_i32_71
  let v132 : BitVec 32 := Scalar.addi v121 v131
  let c1_i32_72 : BitVec 32 := 1#32
  ⟨v121, v132, c1_i32_72⟩
def k0_off371 (i : grid0.Coords) (k0_t31 : Fin (k0_t31_loop i).trips) : Fin 2 → Nat :=
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c1_i32_72 : BitVec 32 := 1#32
  let arg34 : BitVec 32 := Scf.iv v121 c1_i32_72 k0_t31
  let c0_i32_287_r42 : BitVec 32 := 0#32
  ![arg34.toNat, 0]
@[reducible] def k0_t32_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off372 (k0_t32 : Fin k0_t32_loop.trips) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk321 (v464 : IVec S16 32) : Prop :=
  (∀ a x, ((![v464] : Fin 1 → IVec S16 32) a x).toNat < S100000.size a)
instance k0_chk321.dec : ∀ (v464 : IVec S16 32), Decidable (k0_chk321 v464) := fun v464 => decidable_of_iff' _ (Iff.of_eq (k0_chk321.eq_1 v464))
theorem k0_idx321_inb : ∀ (v464 : IVec S16 32) (k0_hw321 : k0_chk321 v464), ∀ a x, ((![v464] : Fin 1 → IVec S16 32) a x).toNat < S100000.size a := fun v464 k0_hw321 => k0_hw321
def k0_off373 (k0_t32 : Fin k0_t32_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v466 : BitVec 32 := Scalar.addi v461 c0_i32_288
  let v467 : Index := Scalar.indexCast v466
  ![v467.toNat]

def k0_chk322 (v471 : IVec S16 32) : Prop :=
  (∀ a x, ((![v471] : Fin 1 → IVec S16 32) a x).toNat < S100000.size a)
instance k0_chk322.dec : ∀ (v471 : IVec S16 32), Decidable (k0_chk322 v471) := fun v471 => decidable_of_iff' _ (Iff.of_eq (k0_chk322.eq_1 v471))
theorem k0_idx322_inb : ∀ (v471 : IVec S16 32) (k0_hw322 : k0_chk322 v471), ∀ a x, ((![v471] : Fin 1 → IVec S16 32) a x).toNat < S100000.size a := fun v471 k0_hw322 => k0_hw322
def k0_off374 (k0_t32 : Fin k0_t32_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v473 : BitVec 32 := Scalar.addi v461 c16_i32_289
  let v474 : Index := Scalar.indexCast v473
  ![v474.toNat]

def k0_chk323 (v478 : IVec S16 32) : Prop :=
  (∀ a x, ((![v478] : Fin 1 → IVec S16 32) a x).toNat < S100000.size a)
instance k0_chk323.dec : ∀ (v478 : IVec S16 32), Decidable (k0_chk323 v478) := fun v478 => decidable_of_iff' _ (Iff.of_eq (k0_chk323.eq_1 v478))
theorem k0_idx323_inb : ∀ (v478 : IVec S16 32) (k0_hw323 : k0_chk323 v478), ∀ a x, ((![v478] : Fin 1 → IVec S16 32) a x).toNat < S100000.size a := fun v478 k0_hw323 => k0_hw323
def k0_off375 (k0_t32 : Fin k0_t32_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v480 : BitVec 32 := Scalar.addi v461 c32_i32_291
  let v481 : Index := Scalar.indexCast v480
  ![v481.toNat]

def k0_chk324 (v485 : IVec S16 32) : Prop :=
  (∀ a x, ((![v485] : Fin 1 → IVec S16 32) a x).toNat < S100000.size a)
instance k0_chk324.dec : ∀ (v485 : IVec S16 32), Decidable (k0_chk324 v485) := fun v485 => decidable_of_iff' _ (Iff.of_eq (k0_chk324.eq_1 v485))
theorem k0_idx324_inb : ∀ (v485 : IVec S16 32) (k0_hw324 : k0_chk324 v485), ∀ a x, ((![v485] : Fin 1 → IVec S16 32) a x).toNat < S100000.size a := fun v485 k0_hw324 => k0_hw324
def k0_off376 (k0_t32 : Fin k0_t32_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v487 : BitVec 32 := Scalar.addi v461 c48_i32_292
  let v488 : Index := Scalar.indexCast v487
  ![v488.toNat]

def k0_chk325 (v492 : IVec S16 32) : Prop :=
  (∀ a x, ((![v492] : Fin 1 → IVec S16 32) a x).toNat < S100000.size a)
instance k0_chk325.dec : ∀ (v492 : IVec S16 32), Decidable (k0_chk325 v492) := fun v492 => decidable_of_iff' _ (Iff.of_eq (k0_chk325.eq_1 v492))
theorem k0_idx325_inb : ∀ (v492 : IVec S16 32) (k0_hw325 : k0_chk325 v492), ∀ a x, ((![v492] : Fin 1 → IVec S16 32) a x).toNat < S100000.size a := fun v492 k0_hw325 => k0_hw325
def k0_off377 (k0_t32 : Fin k0_t32_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v494 : BitVec 32 := Scalar.addi v461 c64_i32_293
  let v495 : Index := Scalar.indexCast v494
  ![v495.toNat]

def k0_chk326 (v499 : IVec S16 32) : Prop :=
  (∀ a x, ((![v499] : Fin 1 → IVec S16 32) a x).toNat < S100000.size a)
instance k0_chk326.dec : ∀ (v499 : IVec S16 32), Decidable (k0_chk326 v499) := fun v499 => decidable_of_iff' _ (Iff.of_eq (k0_chk326.eq_1 v499))
theorem k0_idx326_inb : ∀ (v499 : IVec S16 32) (k0_hw326 : k0_chk326 v499), ∀ a x, ((![v499] : Fin 1 → IVec S16 32) a x).toNat < S100000.size a := fun v499 k0_hw326 => k0_hw326
def k0_off378 (k0_t32 : Fin k0_t32_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v501 : BitVec 32 := Scalar.addi v461 c80_i32_294
  let v502 : Index := Scalar.indexCast v501
  ![v502.toNat]

def k0_chk327 (v506 : IVec S16 32) : Prop :=
  (∀ a x, ((![v506] : Fin 1 → IVec S16 32) a x).toNat < S100000.size a)
instance k0_chk327.dec : ∀ (v506 : IVec S16 32), Decidable (k0_chk327 v506) := fun v506 => decidable_of_iff' _ (Iff.of_eq (k0_chk327.eq_1 v506))
theorem k0_idx327_inb : ∀ (v506 : IVec S16 32) (k0_hw327 : k0_chk327 v506), ∀ a x, ((![v506] : Fin 1 → IVec S16 32) a x).toNat < S100000.size a := fun v506 k0_hw327 => k0_hw327
def k0_off379 (k0_t32 : Fin k0_t32_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v508 : BitVec 32 := Scalar.addi v461 c96_i32_295
  let v509 : Index := Scalar.indexCast v508
  ![v509.toNat]

def k0_chk328 (v513 : IVec S16 32) : Prop :=
  (∀ a x, ((![v513] : Fin 1 → IVec S16 32) a x).toNat < S100000.size a)
instance k0_chk328.dec : ∀ (v513 : IVec S16 32), Decidable (k0_chk328 v513) := fun v513 => decidable_of_iff' _ (Iff.of_eq (k0_chk328.eq_1 v513))
theorem k0_idx328_inb : ∀ (v513 : IVec S16 32) (k0_hw328 : k0_chk328 v513), ∀ a x, ((![v513] : Fin 1 → IVec S16 32) a x).toNat < S100000.size a := fun v513 k0_hw328 => k0_hw328
def k0_off380 (k0_t32 : Fin k0_t32_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v515 : BitVec 32 := Scalar.addi v461 c112_i32_296
  let v516 : Index := Scalar.indexCast v515
  ![v516.toNat]

def k0_chk329 (v520 : IVec S16 32) : Prop :=
  (∀ a x, ((![v520] : Fin 1 → IVec S16 32) a x).toNat < S100000.size a)
instance k0_chk329.dec : ∀ (v520 : IVec S16 32), Decidable (k0_chk329 v520) := fun v520 => decidable_of_iff' _ (Iff.of_eq (k0_chk329.eq_1 v520))
theorem k0_idx329_inb : ∀ (v520 : IVec S16 32) (k0_hw329 : k0_chk329 v520), ∀ a x, ((![v520] : Fin 1 → IVec S16 32) a x).toNat < S100000.size a := fun v520 k0_hw329 => k0_hw329
def k0_off381 (k0_t32 : Fin k0_t32_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v522 : BitVec 32 := Scalar.addi v461 c128_i32_297
  let v523 : Index := Scalar.indexCast v522
  ![v523.toNat]

def k0_chk330 (v527 : IVec S16 32) : Prop :=
  (∀ a x, ((![v527] : Fin 1 → IVec S16 32) a x).toNat < S100000.size a)
instance k0_chk330.dec : ∀ (v527 : IVec S16 32), Decidable (k0_chk330 v527) := fun v527 => decidable_of_iff' _ (Iff.of_eq (k0_chk330.eq_1 v527))
theorem k0_idx330_inb : ∀ (v527 : IVec S16 32) (k0_hw330 : k0_chk330 v527), ∀ a x, ((![v527] : Fin 1 → IVec S16 32) a x).toNat < S100000.size a := fun v527 k0_hw330 => k0_hw330
def k0_off382 (k0_t32 : Fin k0_t32_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v529 : BitVec 32 := Scalar.addi v461 c144_i32_299
  let v530 : Index := Scalar.indexCast v529
  ![v530.toNat]

def k0_chk331 (v534 : IVec S16 32) : Prop :=
  (∀ a x, ((![v534] : Fin 1 → IVec S16 32) a x).toNat < S100000.size a)
instance k0_chk331.dec : ∀ (v534 : IVec S16 32), Decidable (k0_chk331 v534) := fun v534 => decidable_of_iff' _ (Iff.of_eq (k0_chk331.eq_1 v534))
theorem k0_idx331_inb : ∀ (v534 : IVec S16 32) (k0_hw331 : k0_chk331 v534), ∀ a x, ((![v534] : Fin 1 → IVec S16 32) a x).toNat < S100000.size a := fun v534 k0_hw331 => k0_hw331
def k0_off383 (k0_t32 : Fin k0_t32_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v536 : BitVec 32 := Scalar.addi v461 c160_i32_300
  let v537 : Index := Scalar.indexCast v536
  ![v537.toNat]

def k0_chk332 (v541 : IVec S16 32) : Prop :=
  (∀ a x, ((![v541] : Fin 1 → IVec S16 32) a x).toNat < S100000.size a)
instance k0_chk332.dec : ∀ (v541 : IVec S16 32), Decidable (k0_chk332 v541) := fun v541 => decidable_of_iff' _ (Iff.of_eq (k0_chk332.eq_1 v541))
theorem k0_idx332_inb : ∀ (v541 : IVec S16 32) (k0_hw332 : k0_chk332 v541), ∀ a x, ((![v541] : Fin 1 → IVec S16 32) a x).toNat < S100000.size a := fun v541 k0_hw332 => k0_hw332
def k0_off384 (k0_t32 : Fin k0_t32_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v543 : BitVec 32 := Scalar.addi v461 c176_i32_301
  let v544 : Index := Scalar.indexCast v543
  ![v544.toNat]

def k0_chk333 (v548 : IVec S16 32) : Prop :=
  (∀ a x, ((![v548] : Fin 1 → IVec S16 32) a x).toNat < S100000.size a)
instance k0_chk333.dec : ∀ (v548 : IVec S16 32), Decidable (k0_chk333 v548) := fun v548 => decidable_of_iff' _ (Iff.of_eq (k0_chk333.eq_1 v548))
theorem k0_idx333_inb : ∀ (v548 : IVec S16 32) (k0_hw333 : k0_chk333 v548), ∀ a x, ((![v548] : Fin 1 → IVec S16 32) a x).toNat < S100000.size a := fun v548 k0_hw333 => k0_hw333
def k0_off385 (k0_t32 : Fin k0_t32_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v550 : BitVec 32 := Scalar.addi v461 c192_i32_302
  let v551 : Index := Scalar.indexCast v550
  ![v551.toNat]

def k0_chk334 (v555 : IVec S16 32) : Prop :=
  (∀ a x, ((![v555] : Fin 1 → IVec S16 32) a x).toNat < S100000.size a)
instance k0_chk334.dec : ∀ (v555 : IVec S16 32), Decidable (k0_chk334 v555) := fun v555 => decidable_of_iff' _ (Iff.of_eq (k0_chk334.eq_1 v555))
theorem k0_idx334_inb : ∀ (v555 : IVec S16 32) (k0_hw334 : k0_chk334 v555), ∀ a x, ((![v555] : Fin 1 → IVec S16 32) a x).toNat < S100000.size a := fun v555 k0_hw334 => k0_hw334
def k0_off386 (k0_t32 : Fin k0_t32_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v557 : BitVec 32 := Scalar.addi v461 c208_i32_303
  let v558 : Index := Scalar.indexCast v557
  ![v558.toNat]

def k0_chk335 (v562 : IVec S16 32) : Prop :=
  (∀ a x, ((![v562] : Fin 1 → IVec S16 32) a x).toNat < S100000.size a)
instance k0_chk335.dec : ∀ (v562 : IVec S16 32), Decidable (k0_chk335 v562) := fun v562 => decidable_of_iff' _ (Iff.of_eq (k0_chk335.eq_1 v562))
theorem k0_idx335_inb : ∀ (v562 : IVec S16 32) (k0_hw335 : k0_chk335 v562), ∀ a x, ((![v562] : Fin 1 → IVec S16 32) a x).toNat < S100000.size a := fun v562 k0_hw335 => k0_hw335
def k0_off387 (k0_t32 : Fin k0_t32_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let v564 : BitVec 32 := Scalar.addi v461 c224_i32_304
  let v565 : Index := Scalar.indexCast v564
  ![v565.toNat]

def k0_chk336 (v569 : IVec S16 32) : Prop :=
  (∀ a x, ((![v569] : Fin 1 → IVec S16 32) a x).toNat < S100000.size a)
instance k0_chk336.dec : ∀ (v569 : IVec S16 32), Decidable (k0_chk336 v569) := fun v569 => decidable_of_iff' _ (Iff.of_eq (k0_chk336.eq_1 v569))
theorem k0_idx336_inb : ∀ (v569 : IVec S16 32) (k0_hw336 : k0_chk336 v569), ∀ a x, ((![v569] : Fin 1 → IVec S16 32) a x).toNat < S100000.size a := fun v569 k0_hw336 => k0_hw336
def k0_off388 (k0_t32 : Fin k0_t32_loop.trips) : Fin 1 → Nat :=
  let c0_i32_275 : BitVec 32 := 0#32
  let c1_i32_277 : BitVec 32 := 1#32
  let arg36 : BitVec 32 := Scf.iv c0_i32_275 c1_i32_277 k0_t32
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off389 (i : grid0.Coords) (k0_t31 : Fin (k0_t31_loop i).trips) : Fin 2 → Nat :=
  let c180_i32_279 : BitVec 32 := 180#32
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c1_i32_72 : BitVec 32 := 1#32
  let arg34 : BitVec 32 := Scf.iv v121 c1_i32_72 k0_t31
  let v457 : BitVec 32 := Scalar.addi c180_i32_279 arg34
  let c0_i32_287_r43 : BitVec 32 := 0#32
  ![v457.toNat, 0]
@[reducible] def k0_t33_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off390 (k0_t33 : Fin k0_t33_loop.trips) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk337 (v464 : IVec S16 32) : Prop :=
  (∀ a x, ((![v464] : Fin 1 → IVec S16 32) a x).toNat < S100000.size a)
instance k0_chk337.dec : ∀ (v464 : IVec S16 32), Decidable (k0_chk337 v464) := fun v464 => decidable_of_iff' _ (Iff.of_eq (k0_chk337.eq_1 v464))
theorem k0_idx337_inb : ∀ (v464 : IVec S16 32) (k0_hw337 : k0_chk337 v464), ∀ a x, ((![v464] : Fin 1 → IVec S16 32) a x).toNat < S100000.size a := fun v464 k0_hw337 => k0_hw337
def k0_off391 (k0_t33 : Fin k0_t33_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v466 : BitVec 32 := Scalar.addi v461 c0_i32_288
  let v467 : Index := Scalar.indexCast v466
  ![v467.toNat]

def k0_chk338 (v471 : IVec S16 32) : Prop :=
  (∀ a x, ((![v471] : Fin 1 → IVec S16 32) a x).toNat < S100000.size a)
instance k0_chk338.dec : ∀ (v471 : IVec S16 32), Decidable (k0_chk338 v471) := fun v471 => decidable_of_iff' _ (Iff.of_eq (k0_chk338.eq_1 v471))
theorem k0_idx338_inb : ∀ (v471 : IVec S16 32) (k0_hw338 : k0_chk338 v471), ∀ a x, ((![v471] : Fin 1 → IVec S16 32) a x).toNat < S100000.size a := fun v471 k0_hw338 => k0_hw338
def k0_off392 (k0_t33 : Fin k0_t33_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v473 : BitVec 32 := Scalar.addi v461 c16_i32_289
  let v474 : Index := Scalar.indexCast v473
  ![v474.toNat]

def k0_chk339 (v478 : IVec S16 32) : Prop :=
  (∀ a x, ((![v478] : Fin 1 → IVec S16 32) a x).toNat < S100000.size a)
instance k0_chk339.dec : ∀ (v478 : IVec S16 32), Decidable (k0_chk339 v478) := fun v478 => decidable_of_iff' _ (Iff.of_eq (k0_chk339.eq_1 v478))
theorem k0_idx339_inb : ∀ (v478 : IVec S16 32) (k0_hw339 : k0_chk339 v478), ∀ a x, ((![v478] : Fin 1 → IVec S16 32) a x).toNat < S100000.size a := fun v478 k0_hw339 => k0_hw339
def k0_off393 (k0_t33 : Fin k0_t33_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v480 : BitVec 32 := Scalar.addi v461 c32_i32_291
  let v481 : Index := Scalar.indexCast v480
  ![v481.toNat]

def k0_chk340 (v485 : IVec S16 32) : Prop :=
  (∀ a x, ((![v485] : Fin 1 → IVec S16 32) a x).toNat < S100000.size a)
instance k0_chk340.dec : ∀ (v485 : IVec S16 32), Decidable (k0_chk340 v485) := fun v485 => decidable_of_iff' _ (Iff.of_eq (k0_chk340.eq_1 v485))
theorem k0_idx340_inb : ∀ (v485 : IVec S16 32) (k0_hw340 : k0_chk340 v485), ∀ a x, ((![v485] : Fin 1 → IVec S16 32) a x).toNat < S100000.size a := fun v485 k0_hw340 => k0_hw340
def k0_off394 (k0_t33 : Fin k0_t33_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v487 : BitVec 32 := Scalar.addi v461 c48_i32_292
  let v488 : Index := Scalar.indexCast v487
  ![v488.toNat]

def k0_chk341 (v492 : IVec S16 32) : Prop :=
  (∀ a x, ((![v492] : Fin 1 → IVec S16 32) a x).toNat < S100000.size a)
instance k0_chk341.dec : ∀ (v492 : IVec S16 32), Decidable (k0_chk341 v492) := fun v492 => decidable_of_iff' _ (Iff.of_eq (k0_chk341.eq_1 v492))
theorem k0_idx341_inb : ∀ (v492 : IVec S16 32) (k0_hw341 : k0_chk341 v492), ∀ a x, ((![v492] : Fin 1 → IVec S16 32) a x).toNat < S100000.size a := fun v492 k0_hw341 => k0_hw341
def k0_off395 (k0_t33 : Fin k0_t33_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v494 : BitVec 32 := Scalar.addi v461 c64_i32_293
  let v495 : Index := Scalar.indexCast v494
  ![v495.toNat]

def k0_chk342 (v499 : IVec S16 32) : Prop :=
  (∀ a x, ((![v499] : Fin 1 → IVec S16 32) a x).toNat < S100000.size a)
instance k0_chk342.dec : ∀ (v499 : IVec S16 32), Decidable (k0_chk342 v499) := fun v499 => decidable_of_iff' _ (Iff.of_eq (k0_chk342.eq_1 v499))
theorem k0_idx342_inb : ∀ (v499 : IVec S16 32) (k0_hw342 : k0_chk342 v499), ∀ a x, ((![v499] : Fin 1 → IVec S16 32) a x).toNat < S100000.size a := fun v499 k0_hw342 => k0_hw342
def k0_off396 (k0_t33 : Fin k0_t33_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v501 : BitVec 32 := Scalar.addi v461 c80_i32_294
  let v502 : Index := Scalar.indexCast v501
  ![v502.toNat]

def k0_chk343 (v506 : IVec S16 32) : Prop :=
  (∀ a x, ((![v506] : Fin 1 → IVec S16 32) a x).toNat < S100000.size a)
instance k0_chk343.dec : ∀ (v506 : IVec S16 32), Decidable (k0_chk343 v506) := fun v506 => decidable_of_iff' _ (Iff.of_eq (k0_chk343.eq_1 v506))
theorem k0_idx343_inb : ∀ (v506 : IVec S16 32) (k0_hw343 : k0_chk343 v506), ∀ a x, ((![v506] : Fin 1 → IVec S16 32) a x).toNat < S100000.size a := fun v506 k0_hw343 => k0_hw343
def k0_off397 (k0_t33 : Fin k0_t33_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v508 : BitVec 32 := Scalar.addi v461 c96_i32_295
  let v509 : Index := Scalar.indexCast v508
  ![v509.toNat]

def k0_chk344 (v513 : IVec S16 32) : Prop :=
  (∀ a x, ((![v513] : Fin 1 → IVec S16 32) a x).toNat < S100000.size a)
instance k0_chk344.dec : ∀ (v513 : IVec S16 32), Decidable (k0_chk344 v513) := fun v513 => decidable_of_iff' _ (Iff.of_eq (k0_chk344.eq_1 v513))
theorem k0_idx344_inb : ∀ (v513 : IVec S16 32) (k0_hw344 : k0_chk344 v513), ∀ a x, ((![v513] : Fin 1 → IVec S16 32) a x).toNat < S100000.size a := fun v513 k0_hw344 => k0_hw344
def k0_off398 (k0_t33 : Fin k0_t33_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v515 : BitVec 32 := Scalar.addi v461 c112_i32_296
  let v516 : Index := Scalar.indexCast v515
  ![v516.toNat]

def k0_chk345 (v520 : IVec S16 32) : Prop :=
  (∀ a x, ((![v520] : Fin 1 → IVec S16 32) a x).toNat < S100000.size a)
instance k0_chk345.dec : ∀ (v520 : IVec S16 32), Decidable (k0_chk345 v520) := fun v520 => decidable_of_iff' _ (Iff.of_eq (k0_chk345.eq_1 v520))
theorem k0_idx345_inb : ∀ (v520 : IVec S16 32) (k0_hw345 : k0_chk345 v520), ∀ a x, ((![v520] : Fin 1 → IVec S16 32) a x).toNat < S100000.size a := fun v520 k0_hw345 => k0_hw345
def k0_off399 (k0_t33 : Fin k0_t33_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v522 : BitVec 32 := Scalar.addi v461 c128_i32_297
  let v523 : Index := Scalar.indexCast v522
  ![v523.toNat]

def k0_chk346 (v527 : IVec S16 32) : Prop :=
  (∀ a x, ((![v527] : Fin 1 → IVec S16 32) a x).toNat < S100000.size a)
instance k0_chk346.dec : ∀ (v527 : IVec S16 32), Decidable (k0_chk346 v527) := fun v527 => decidable_of_iff' _ (Iff.of_eq (k0_chk346.eq_1 v527))
theorem k0_idx346_inb : ∀ (v527 : IVec S16 32) (k0_hw346 : k0_chk346 v527), ∀ a x, ((![v527] : Fin 1 → IVec S16 32) a x).toNat < S100000.size a := fun v527 k0_hw346 => k0_hw346
def k0_off400 (k0_t33 : Fin k0_t33_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v529 : BitVec 32 := Scalar.addi v461 c144_i32_299
  let v530 : Index := Scalar.indexCast v529
  ![v530.toNat]

def k0_chk347 (v534 : IVec S16 32) : Prop :=
  (∀ a x, ((![v534] : Fin 1 → IVec S16 32) a x).toNat < S100000.size a)
instance k0_chk347.dec : ∀ (v534 : IVec S16 32), Decidable (k0_chk347 v534) := fun v534 => decidable_of_iff' _ (Iff.of_eq (k0_chk347.eq_1 v534))
theorem k0_idx347_inb : ∀ (v534 : IVec S16 32) (k0_hw347 : k0_chk347 v534), ∀ a x, ((![v534] : Fin 1 → IVec S16 32) a x).toNat < S100000.size a := fun v534 k0_hw347 => k0_hw347
def k0_off401 (k0_t33 : Fin k0_t33_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v536 : BitVec 32 := Scalar.addi v461 c160_i32_300
  let v537 : Index := Scalar.indexCast v536
  ![v537.toNat]

def k0_chk348 (v541 : IVec S16 32) : Prop :=
  (∀ a x, ((![v541] : Fin 1 → IVec S16 32) a x).toNat < S100000.size a)
instance k0_chk348.dec : ∀ (v541 : IVec S16 32), Decidable (k0_chk348 v541) := fun v541 => decidable_of_iff' _ (Iff.of_eq (k0_chk348.eq_1 v541))
theorem k0_idx348_inb : ∀ (v541 : IVec S16 32) (k0_hw348 : k0_chk348 v541), ∀ a x, ((![v541] : Fin 1 → IVec S16 32) a x).toNat < S100000.size a := fun v541 k0_hw348 => k0_hw348
def k0_off402 (k0_t33 : Fin k0_t33_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v543 : BitVec 32 := Scalar.addi v461 c176_i32_301
  let v544 : Index := Scalar.indexCast v543
  ![v544.toNat]

def k0_chk349 (v548 : IVec S16 32) : Prop :=
  (∀ a x, ((![v548] : Fin 1 → IVec S16 32) a x).toNat < S100000.size a)
instance k0_chk349.dec : ∀ (v548 : IVec S16 32), Decidable (k0_chk349 v548) := fun v548 => decidable_of_iff' _ (Iff.of_eq (k0_chk349.eq_1 v548))
theorem k0_idx349_inb : ∀ (v548 : IVec S16 32) (k0_hw349 : k0_chk349 v548), ∀ a x, ((![v548] : Fin 1 → IVec S16 32) a x).toNat < S100000.size a := fun v548 k0_hw349 => k0_hw349
def k0_off403 (k0_t33 : Fin k0_t33_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v550 : BitVec 32 := Scalar.addi v461 c192_i32_302
  let v551 : Index := Scalar.indexCast v550
  ![v551.toNat]

def k0_chk350 (v555 : IVec S16 32) : Prop :=
  (∀ a x, ((![v555] : Fin 1 → IVec S16 32) a x).toNat < S100000.size a)
instance k0_chk350.dec : ∀ (v555 : IVec S16 32), Decidable (k0_chk350 v555) := fun v555 => decidable_of_iff' _ (Iff.of_eq (k0_chk350.eq_1 v555))
theorem k0_idx350_inb : ∀ (v555 : IVec S16 32) (k0_hw350 : k0_chk350 v555), ∀ a x, ((![v555] : Fin 1 → IVec S16 32) a x).toNat < S100000.size a := fun v555 k0_hw350 => k0_hw350
def k0_off404 (k0_t33 : Fin k0_t33_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v557 : BitVec 32 := Scalar.addi v461 c208_i32_303
  let v558 : Index := Scalar.indexCast v557
  ![v558.toNat]

def k0_chk351 (v562 : IVec S16 32) : Prop :=
  (∀ a x, ((![v562] : Fin 1 → IVec S16 32) a x).toNat < S100000.size a)
instance k0_chk351.dec : ∀ (v562 : IVec S16 32), Decidable (k0_chk351 v562) := fun v562 => decidable_of_iff' _ (Iff.of_eq (k0_chk351.eq_1 v562))
theorem k0_idx351_inb : ∀ (v562 : IVec S16 32) (k0_hw351 : k0_chk351 v562), ∀ a x, ((![v562] : Fin 1 → IVec S16 32) a x).toNat < S100000.size a := fun v562 k0_hw351 => k0_hw351
def k0_off405 (k0_t33 : Fin k0_t33_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let v564 : BitVec 32 := Scalar.addi v461 c224_i32_304
  let v565 : Index := Scalar.indexCast v564
  ![v565.toNat]

def k0_chk352 (v569 : IVec S16 32) : Prop :=
  (∀ a x, ((![v569] : Fin 1 → IVec S16 32) a x).toNat < S100000.size a)
instance k0_chk352.dec : ∀ (v569 : IVec S16 32), Decidable (k0_chk352 v569) := fun v569 => decidable_of_iff' _ (Iff.of_eq (k0_chk352.eq_1 v569))
theorem k0_idx352_inb : ∀ (v569 : IVec S16 32) (k0_hw352 : k0_chk352 v569), ∀ a x, ((![v569] : Fin 1 → IVec S16 32) a x).toNat < S100000.size a := fun v569 k0_hw352 => k0_hw352
def k0_off406 (k0_t33 : Fin k0_t33_loop.trips) : Fin 1 → Nat :=
  let c0_i32_281 : BitVec 32 := 0#32
  let c1_i32_283 : BitVec 32 := 1#32
  let arg36 : BitVec 32 := Scf.iv c0_i32_281 c1_i32_283 k0_t33
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off407 (i : grid0.Coords) (k0_t31 : Fin (k0_t31_loop i).trips) : Fin 2 → Nat :=
  let c180_i32_285 : BitVec 32 := 180#32
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c1_i32_72 : BitVec 32 := 1#32
  let arg34 : BitVec 32 := Scf.iv v121 c1_i32_72 k0_t31
  let v460 : BitVec 32 := Scalar.addi c180_i32_285 arg34
  let c8192_i32_r44 : BitVec 32 := 8192#32
  ![v460.toNat, 8192]
@[reducible] def k0_t34_loop (i : grid0.Coords) : Scf.Loop 32 :=
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c36_i32_68 : BitVec 32 := 36#32
  let c0_i32_67 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c180_i32_66 : BitVec 32 := 180#32
  let v122 : BitVec 32 := Scalar.subi v38 c180_i32_66
  let v123 : BitVec 32 := Scalar.maxsi c0_i32_67 v122
  let v124 : BitVec 32 := Scalar.minsi c36_i32_68 v123
  let v128 : BitVec 32 := Scalar.subi v124 v121
  let c1_i32_71 : BitVec 32 := 1#32
  let v130 : BitVec 32 := Scalar.divsi v128 c1_i32_71
  let v131 : BitVec 32 := Scalar.muli v130 c1_i32_71
  let v132 : BitVec 32 := Scalar.addi v121 v131
  let v129 : BitVec 32 := Scalar.addi v121 v128
  let c1_i32_73 : BitVec 32 := 1#32
  ⟨v132, v129, c1_i32_73⟩
def k0_off408 (i : grid0.Coords) (k0_t34 : Fin (k0_t34_loop i).trips) : Fin 2 → Nat :=
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c36_i32_68 : BitVec 32 := 36#32
  let c0_i32_67 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c180_i32_66 : BitVec 32 := 180#32
  let v122 : BitVec 32 := Scalar.subi v38 c180_i32_66
  let v123 : BitVec 32 := Scalar.maxsi c0_i32_67 v122
  let v124 : BitVec 32 := Scalar.minsi c36_i32_68 v123
  let v128 : BitVec 32 := Scalar.subi v124 v121
  let c1_i32_71 : BitVec 32 := 1#32
  let v130 : BitVec 32 := Scalar.divsi v128 c1_i32_71
  let v131 : BitVec 32 := Scalar.muli v130 c1_i32_71
  let v132 : BitVec 32 := Scalar.addi v121 v131
  let c1_i32_73 : BitVec 32 := 1#32
  let arg34 : BitVec 32 := Scf.iv v132 c1_i32_73 k0_t34
  let c0_i32_287_r45 : BitVec 32 := 0#32
  ![arg34.toNat, 0]
@[reducible] def k0_t35_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off409 (k0_t35 : Fin k0_t35_loop.trips) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk353 (v464 : IVec S16 32) : Prop :=
  (∀ a x, ((![v464] : Fin 1 → IVec S16 32) a x).toNat < S100000.size a)
instance k0_chk353.dec : ∀ (v464 : IVec S16 32), Decidable (k0_chk353 v464) := fun v464 => decidable_of_iff' _ (Iff.of_eq (k0_chk353.eq_1 v464))
theorem k0_idx353_inb : ∀ (v464 : IVec S16 32) (k0_hw353 : k0_chk353 v464), ∀ a x, ((![v464] : Fin 1 → IVec S16 32) a x).toNat < S100000.size a := fun v464 k0_hw353 => k0_hw353
def k0_off410 (k0_t35 : Fin k0_t35_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v466 : BitVec 32 := Scalar.addi v461 c0_i32_288
  let v467 : Index := Scalar.indexCast v466
  ![v467.toNat]

def k0_chk354 (v471 : IVec S16 32) : Prop :=
  (∀ a x, ((![v471] : Fin 1 → IVec S16 32) a x).toNat < S100000.size a)
instance k0_chk354.dec : ∀ (v471 : IVec S16 32), Decidable (k0_chk354 v471) := fun v471 => decidable_of_iff' _ (Iff.of_eq (k0_chk354.eq_1 v471))
theorem k0_idx354_inb : ∀ (v471 : IVec S16 32) (k0_hw354 : k0_chk354 v471), ∀ a x, ((![v471] : Fin 1 → IVec S16 32) a x).toNat < S100000.size a := fun v471 k0_hw354 => k0_hw354
def k0_off411 (k0_t35 : Fin k0_t35_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v473 : BitVec 32 := Scalar.addi v461 c16_i32_289
  let v474 : Index := Scalar.indexCast v473
  ![v474.toNat]

def k0_chk355 (v478 : IVec S16 32) : Prop :=
  (∀ a x, ((![v478] : Fin 1 → IVec S16 32) a x).toNat < S100000.size a)
instance k0_chk355.dec : ∀ (v478 : IVec S16 32), Decidable (k0_chk355 v478) := fun v478 => decidable_of_iff' _ (Iff.of_eq (k0_chk355.eq_1 v478))
theorem k0_idx355_inb : ∀ (v478 : IVec S16 32) (k0_hw355 : k0_chk355 v478), ∀ a x, ((![v478] : Fin 1 → IVec S16 32) a x).toNat < S100000.size a := fun v478 k0_hw355 => k0_hw355
def k0_off412 (k0_t35 : Fin k0_t35_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v480 : BitVec 32 := Scalar.addi v461 c32_i32_291
  let v481 : Index := Scalar.indexCast v480
  ![v481.toNat]

def k0_chk356 (v485 : IVec S16 32) : Prop :=
  (∀ a x, ((![v485] : Fin 1 → IVec S16 32) a x).toNat < S100000.size a)
instance k0_chk356.dec : ∀ (v485 : IVec S16 32), Decidable (k0_chk356 v485) := fun v485 => decidable_of_iff' _ (Iff.of_eq (k0_chk356.eq_1 v485))
theorem k0_idx356_inb : ∀ (v485 : IVec S16 32) (k0_hw356 : k0_chk356 v485), ∀ a x, ((![v485] : Fin 1 → IVec S16 32) a x).toNat < S100000.size a := fun v485 k0_hw356 => k0_hw356
def k0_off413 (k0_t35 : Fin k0_t35_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v487 : BitVec 32 := Scalar.addi v461 c48_i32_292
  let v488 : Index := Scalar.indexCast v487
  ![v488.toNat]

def k0_chk357 (v492 : IVec S16 32) : Prop :=
  (∀ a x, ((![v492] : Fin 1 → IVec S16 32) a x).toNat < S100000.size a)
instance k0_chk357.dec : ∀ (v492 : IVec S16 32), Decidable (k0_chk357 v492) := fun v492 => decidable_of_iff' _ (Iff.of_eq (k0_chk357.eq_1 v492))
theorem k0_idx357_inb : ∀ (v492 : IVec S16 32) (k0_hw357 : k0_chk357 v492), ∀ a x, ((![v492] : Fin 1 → IVec S16 32) a x).toNat < S100000.size a := fun v492 k0_hw357 => k0_hw357
def k0_off414 (k0_t35 : Fin k0_t35_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v494 : BitVec 32 := Scalar.addi v461 c64_i32_293
  let v495 : Index := Scalar.indexCast v494
  ![v495.toNat]

def k0_chk358 (v499 : IVec S16 32) : Prop :=
  (∀ a x, ((![v499] : Fin 1 → IVec S16 32) a x).toNat < S100000.size a)
instance k0_chk358.dec : ∀ (v499 : IVec S16 32), Decidable (k0_chk358 v499) := fun v499 => decidable_of_iff' _ (Iff.of_eq (k0_chk358.eq_1 v499))
theorem k0_idx358_inb : ∀ (v499 : IVec S16 32) (k0_hw358 : k0_chk358 v499), ∀ a x, ((![v499] : Fin 1 → IVec S16 32) a x).toNat < S100000.size a := fun v499 k0_hw358 => k0_hw358
def k0_off415 (k0_t35 : Fin k0_t35_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v501 : BitVec 32 := Scalar.addi v461 c80_i32_294
  let v502 : Index := Scalar.indexCast v501
  ![v502.toNat]

def k0_chk359 (v506 : IVec S16 32) : Prop :=
  (∀ a x, ((![v506] : Fin 1 → IVec S16 32) a x).toNat < S100000.size a)
instance k0_chk359.dec : ∀ (v506 : IVec S16 32), Decidable (k0_chk359 v506) := fun v506 => decidable_of_iff' _ (Iff.of_eq (k0_chk359.eq_1 v506))
theorem k0_idx359_inb : ∀ (v506 : IVec S16 32) (k0_hw359 : k0_chk359 v506), ∀ a x, ((![v506] : Fin 1 → IVec S16 32) a x).toNat < S100000.size a := fun v506 k0_hw359 => k0_hw359
def k0_off416 (k0_t35 : Fin k0_t35_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v508 : BitVec 32 := Scalar.addi v461 c96_i32_295
  let v509 : Index := Scalar.indexCast v508
  ![v509.toNat]

def k0_chk360 (v513 : IVec S16 32) : Prop :=
  (∀ a x, ((![v513] : Fin 1 → IVec S16 32) a x).toNat < S100000.size a)
instance k0_chk360.dec : ∀ (v513 : IVec S16 32), Decidable (k0_chk360 v513) := fun v513 => decidable_of_iff' _ (Iff.of_eq (k0_chk360.eq_1 v513))
theorem k0_idx360_inb : ∀ (v513 : IVec S16 32) (k0_hw360 : k0_chk360 v513), ∀ a x, ((![v513] : Fin 1 → IVec S16 32) a x).toNat < S100000.size a := fun v513 k0_hw360 => k0_hw360
def k0_off417 (k0_t35 : Fin k0_t35_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v515 : BitVec 32 := Scalar.addi v461 c112_i32_296
  let v516 : Index := Scalar.indexCast v515
  ![v516.toNat]

def k0_chk361 (v520 : IVec S16 32) : Prop :=
  (∀ a x, ((![v520] : Fin 1 → IVec S16 32) a x).toNat < S100000.size a)
instance k0_chk361.dec : ∀ (v520 : IVec S16 32), Decidable (k0_chk361 v520) := fun v520 => decidable_of_iff' _ (Iff.of_eq (k0_chk361.eq_1 v520))
theorem k0_idx361_inb : ∀ (v520 : IVec S16 32) (k0_hw361 : k0_chk361 v520), ∀ a x, ((![v520] : Fin 1 → IVec S16 32) a x).toNat < S100000.size a := fun v520 k0_hw361 => k0_hw361
def k0_off418 (k0_t35 : Fin k0_t35_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v522 : BitVec 32 := Scalar.addi v461 c128_i32_297
  let v523 : Index := Scalar.indexCast v522
  ![v523.toNat]

def k0_chk362 (v527 : IVec S16 32) : Prop :=
  (∀ a x, ((![v527] : Fin 1 → IVec S16 32) a x).toNat < S100000.size a)
instance k0_chk362.dec : ∀ (v527 : IVec S16 32), Decidable (k0_chk362 v527) := fun v527 => decidable_of_iff' _ (Iff.of_eq (k0_chk362.eq_1 v527))
theorem k0_idx362_inb : ∀ (v527 : IVec S16 32) (k0_hw362 : k0_chk362 v527), ∀ a x, ((![v527] : Fin 1 → IVec S16 32) a x).toNat < S100000.size a := fun v527 k0_hw362 => k0_hw362
def k0_off419 (k0_t35 : Fin k0_t35_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v529 : BitVec 32 := Scalar.addi v461 c144_i32_299
  let v530 : Index := Scalar.indexCast v529
  ![v530.toNat]

def k0_chk363 (v534 : IVec S16 32) : Prop :=
  (∀ a x, ((![v534] : Fin 1 → IVec S16 32) a x).toNat < S100000.size a)
instance k0_chk363.dec : ∀ (v534 : IVec S16 32), Decidable (k0_chk363 v534) := fun v534 => decidable_of_iff' _ (Iff.of_eq (k0_chk363.eq_1 v534))
theorem k0_idx363_inb : ∀ (v534 : IVec S16 32) (k0_hw363 : k0_chk363 v534), ∀ a x, ((![v534] : Fin 1 → IVec S16 32) a x).toNat < S100000.size a := fun v534 k0_hw363 => k0_hw363
def k0_off420 (k0_t35 : Fin k0_t35_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v536 : BitVec 32 := Scalar.addi v461 c160_i32_300
  let v537 : Index := Scalar.indexCast v536
  ![v537.toNat]

def k0_chk364 (v541 : IVec S16 32) : Prop :=
  (∀ a x, ((![v541] : Fin 1 → IVec S16 32) a x).toNat < S100000.size a)
instance k0_chk364.dec : ∀ (v541 : IVec S16 32), Decidable (k0_chk364 v541) := fun v541 => decidable_of_iff' _ (Iff.of_eq (k0_chk364.eq_1 v541))
theorem k0_idx364_inb : ∀ (v541 : IVec S16 32) (k0_hw364 : k0_chk364 v541), ∀ a x, ((![v541] : Fin 1 → IVec S16 32) a x).toNat < S100000.size a := fun v541 k0_hw364 => k0_hw364
def k0_off421 (k0_t35 : Fin k0_t35_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v543 : BitVec 32 := Scalar.addi v461 c176_i32_301
  let v544 : Index := Scalar.indexCast v543
  ![v544.toNat]

def k0_chk365 (v548 : IVec S16 32) : Prop :=
  (∀ a x, ((![v548] : Fin 1 → IVec S16 32) a x).toNat < S100000.size a)
instance k0_chk365.dec : ∀ (v548 : IVec S16 32), Decidable (k0_chk365 v548) := fun v548 => decidable_of_iff' _ (Iff.of_eq (k0_chk365.eq_1 v548))
theorem k0_idx365_inb : ∀ (v548 : IVec S16 32) (k0_hw365 : k0_chk365 v548), ∀ a x, ((![v548] : Fin 1 → IVec S16 32) a x).toNat < S100000.size a := fun v548 k0_hw365 => k0_hw365
def k0_off422 (k0_t35 : Fin k0_t35_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v550 : BitVec 32 := Scalar.addi v461 c192_i32_302
  let v551 : Index := Scalar.indexCast v550
  ![v551.toNat]

def k0_chk366 (v555 : IVec S16 32) : Prop :=
  (∀ a x, ((![v555] : Fin 1 → IVec S16 32) a x).toNat < S100000.size a)
instance k0_chk366.dec : ∀ (v555 : IVec S16 32), Decidable (k0_chk366 v555) := fun v555 => decidable_of_iff' _ (Iff.of_eq (k0_chk366.eq_1 v555))
theorem k0_idx366_inb : ∀ (v555 : IVec S16 32) (k0_hw366 : k0_chk366 v555), ∀ a x, ((![v555] : Fin 1 → IVec S16 32) a x).toNat < S100000.size a := fun v555 k0_hw366 => k0_hw366
def k0_off423 (k0_t35 : Fin k0_t35_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v557 : BitVec 32 := Scalar.addi v461 c208_i32_303
  let v558 : Index := Scalar.indexCast v557
  ![v558.toNat]

def k0_chk367 (v562 : IVec S16 32) : Prop :=
  (∀ a x, ((![v562] : Fin 1 → IVec S16 32) a x).toNat < S100000.size a)
instance k0_chk367.dec : ∀ (v562 : IVec S16 32), Decidable (k0_chk367 v562) := fun v562 => decidable_of_iff' _ (Iff.of_eq (k0_chk367.eq_1 v562))
theorem k0_idx367_inb : ∀ (v562 : IVec S16 32) (k0_hw367 : k0_chk367 v562), ∀ a x, ((![v562] : Fin 1 → IVec S16 32) a x).toNat < S100000.size a := fun v562 k0_hw367 => k0_hw367
def k0_off424 (k0_t35 : Fin k0_t35_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let v564 : BitVec 32 := Scalar.addi v461 c224_i32_304
  let v565 : Index := Scalar.indexCast v564
  ![v565.toNat]

def k0_chk368 (v569 : IVec S16 32) : Prop :=
  (∀ a x, ((![v569] : Fin 1 → IVec S16 32) a x).toNat < S100000.size a)
instance k0_chk368.dec : ∀ (v569 : IVec S16 32), Decidable (k0_chk368 v569) := fun v569 => decidable_of_iff' _ (Iff.of_eq (k0_chk368.eq_1 v569))
theorem k0_idx368_inb : ∀ (v569 : IVec S16 32) (k0_hw368 : k0_chk368 v569), ∀ a x, ((![v569] : Fin 1 → IVec S16 32) a x).toNat < S100000.size a := fun v569 k0_hw368 => k0_hw368
def k0_off425 (k0_t35 : Fin k0_t35_loop.trips) : Fin 1 → Nat :=
  let c0_i32_275 : BitVec 32 := 0#32
  let c1_i32_277 : BitVec 32 := 1#32
  let arg36 : BitVec 32 := Scf.iv c0_i32_275 c1_i32_277 k0_t35
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off426 (i : grid0.Coords) (k0_t34 : Fin (k0_t34_loop i).trips) : Fin 2 → Nat :=
  let c180_i32_279 : BitVec 32 := 180#32
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c36_i32_68 : BitVec 32 := 36#32
  let c0_i32_67 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c180_i32_66 : BitVec 32 := 180#32
  let v122 : BitVec 32 := Scalar.subi v38 c180_i32_66
  let v123 : BitVec 32 := Scalar.maxsi c0_i32_67 v122
  let v124 : BitVec 32 := Scalar.minsi c36_i32_68 v123
  let v128 : BitVec 32 := Scalar.subi v124 v121
  let c1_i32_71 : BitVec 32 := 1#32
  let v130 : BitVec 32 := Scalar.divsi v128 c1_i32_71
  let v131 : BitVec 32 := Scalar.muli v130 c1_i32_71
  let v132 : BitVec 32 := Scalar.addi v121 v131
  let c1_i32_73 : BitVec 32 := 1#32
  let arg34 : BitVec 32 := Scf.iv v132 c1_i32_73 k0_t34
  let v457 : BitVec 32 := Scalar.addi c180_i32_279 arg34
  let c0_i32_287_r46 : BitVec 32 := 0#32
  ![v457.toNat, 0]
@[reducible] def k0_t36_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off427 (k0_t36 : Fin k0_t36_loop.trips) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk369 (v464 : IVec S16 32) : Prop :=
  (∀ a x, ((![v464] : Fin 1 → IVec S16 32) a x).toNat < S100000.size a)
instance k0_chk369.dec : ∀ (v464 : IVec S16 32), Decidable (k0_chk369 v464) := fun v464 => decidable_of_iff' _ (Iff.of_eq (k0_chk369.eq_1 v464))
theorem k0_idx369_inb : ∀ (v464 : IVec S16 32) (k0_hw369 : k0_chk369 v464), ∀ a x, ((![v464] : Fin 1 → IVec S16 32) a x).toNat < S100000.size a := fun v464 k0_hw369 => k0_hw369
def k0_off428 (k0_t36 : Fin k0_t36_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v466 : BitVec 32 := Scalar.addi v461 c0_i32_288
  let v467 : Index := Scalar.indexCast v466
  ![v467.toNat]

def k0_chk370 (v471 : IVec S16 32) : Prop :=
  (∀ a x, ((![v471] : Fin 1 → IVec S16 32) a x).toNat < S100000.size a)
instance k0_chk370.dec : ∀ (v471 : IVec S16 32), Decidable (k0_chk370 v471) := fun v471 => decidable_of_iff' _ (Iff.of_eq (k0_chk370.eq_1 v471))
theorem k0_idx370_inb : ∀ (v471 : IVec S16 32) (k0_hw370 : k0_chk370 v471), ∀ a x, ((![v471] : Fin 1 → IVec S16 32) a x).toNat < S100000.size a := fun v471 k0_hw370 => k0_hw370
def k0_off429 (k0_t36 : Fin k0_t36_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v473 : BitVec 32 := Scalar.addi v461 c16_i32_289
  let v474 : Index := Scalar.indexCast v473
  ![v474.toNat]

def k0_chk371 (v478 : IVec S16 32) : Prop :=
  (∀ a x, ((![v478] : Fin 1 → IVec S16 32) a x).toNat < S100000.size a)
instance k0_chk371.dec : ∀ (v478 : IVec S16 32), Decidable (k0_chk371 v478) := fun v478 => decidable_of_iff' _ (Iff.of_eq (k0_chk371.eq_1 v478))
theorem k0_idx371_inb : ∀ (v478 : IVec S16 32) (k0_hw371 : k0_chk371 v478), ∀ a x, ((![v478] : Fin 1 → IVec S16 32) a x).toNat < S100000.size a := fun v478 k0_hw371 => k0_hw371
def k0_off430 (k0_t36 : Fin k0_t36_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v480 : BitVec 32 := Scalar.addi v461 c32_i32_291
  let v481 : Index := Scalar.indexCast v480
  ![v481.toNat]

def k0_chk372 (v485 : IVec S16 32) : Prop :=
  (∀ a x, ((![v485] : Fin 1 → IVec S16 32) a x).toNat < S100000.size a)
instance k0_chk372.dec : ∀ (v485 : IVec S16 32), Decidable (k0_chk372 v485) := fun v485 => decidable_of_iff' _ (Iff.of_eq (k0_chk372.eq_1 v485))
theorem k0_idx372_inb : ∀ (v485 : IVec S16 32) (k0_hw372 : k0_chk372 v485), ∀ a x, ((![v485] : Fin 1 → IVec S16 32) a x).toNat < S100000.size a := fun v485 k0_hw372 => k0_hw372
def k0_off431 (k0_t36 : Fin k0_t36_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v487 : BitVec 32 := Scalar.addi v461 c48_i32_292
  let v488 : Index := Scalar.indexCast v487
  ![v488.toNat]

def k0_chk373 (v492 : IVec S16 32) : Prop :=
  (∀ a x, ((![v492] : Fin 1 → IVec S16 32) a x).toNat < S100000.size a)
instance k0_chk373.dec : ∀ (v492 : IVec S16 32), Decidable (k0_chk373 v492) := fun v492 => decidable_of_iff' _ (Iff.of_eq (k0_chk373.eq_1 v492))
theorem k0_idx373_inb : ∀ (v492 : IVec S16 32) (k0_hw373 : k0_chk373 v492), ∀ a x, ((![v492] : Fin 1 → IVec S16 32) a x).toNat < S100000.size a := fun v492 k0_hw373 => k0_hw373
def k0_off432 (k0_t36 : Fin k0_t36_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v494 : BitVec 32 := Scalar.addi v461 c64_i32_293
  let v495 : Index := Scalar.indexCast v494
  ![v495.toNat]

def k0_chk374 (v499 : IVec S16 32) : Prop :=
  (∀ a x, ((![v499] : Fin 1 → IVec S16 32) a x).toNat < S100000.size a)
instance k0_chk374.dec : ∀ (v499 : IVec S16 32), Decidable (k0_chk374 v499) := fun v499 => decidable_of_iff' _ (Iff.of_eq (k0_chk374.eq_1 v499))
theorem k0_idx374_inb : ∀ (v499 : IVec S16 32) (k0_hw374 : k0_chk374 v499), ∀ a x, ((![v499] : Fin 1 → IVec S16 32) a x).toNat < S100000.size a := fun v499 k0_hw374 => k0_hw374
def k0_off433 (k0_t36 : Fin k0_t36_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v501 : BitVec 32 := Scalar.addi v461 c80_i32_294
  let v502 : Index := Scalar.indexCast v501
  ![v502.toNat]

def k0_chk375 (v506 : IVec S16 32) : Prop :=
  (∀ a x, ((![v506] : Fin 1 → IVec S16 32) a x).toNat < S100000.size a)
instance k0_chk375.dec : ∀ (v506 : IVec S16 32), Decidable (k0_chk375 v506) := fun v506 => decidable_of_iff' _ (Iff.of_eq (k0_chk375.eq_1 v506))
theorem k0_idx375_inb : ∀ (v506 : IVec S16 32) (k0_hw375 : k0_chk375 v506), ∀ a x, ((![v506] : Fin 1 → IVec S16 32) a x).toNat < S100000.size a := fun v506 k0_hw375 => k0_hw375
def k0_off434 (k0_t36 : Fin k0_t36_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v508 : BitVec 32 := Scalar.addi v461 c96_i32_295
  let v509 : Index := Scalar.indexCast v508
  ![v509.toNat]

def k0_chk376 (v513 : IVec S16 32) : Prop :=
  (∀ a x, ((![v513] : Fin 1 → IVec S16 32) a x).toNat < S100000.size a)
instance k0_chk376.dec : ∀ (v513 : IVec S16 32), Decidable (k0_chk376 v513) := fun v513 => decidable_of_iff' _ (Iff.of_eq (k0_chk376.eq_1 v513))
theorem k0_idx376_inb : ∀ (v513 : IVec S16 32) (k0_hw376 : k0_chk376 v513), ∀ a x, ((![v513] : Fin 1 → IVec S16 32) a x).toNat < S100000.size a := fun v513 k0_hw376 => k0_hw376
def k0_off435 (k0_t36 : Fin k0_t36_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v515 : BitVec 32 := Scalar.addi v461 c112_i32_296
  let v516 : Index := Scalar.indexCast v515
  ![v516.toNat]

def k0_chk377 (v520 : IVec S16 32) : Prop :=
  (∀ a x, ((![v520] : Fin 1 → IVec S16 32) a x).toNat < S100000.size a)
instance k0_chk377.dec : ∀ (v520 : IVec S16 32), Decidable (k0_chk377 v520) := fun v520 => decidable_of_iff' _ (Iff.of_eq (k0_chk377.eq_1 v520))
theorem k0_idx377_inb : ∀ (v520 : IVec S16 32) (k0_hw377 : k0_chk377 v520), ∀ a x, ((![v520] : Fin 1 → IVec S16 32) a x).toNat < S100000.size a := fun v520 k0_hw377 => k0_hw377
def k0_off436 (k0_t36 : Fin k0_t36_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v522 : BitVec 32 := Scalar.addi v461 c128_i32_297
  let v523 : Index := Scalar.indexCast v522
  ![v523.toNat]

def k0_chk378 (v527 : IVec S16 32) : Prop :=
  (∀ a x, ((![v527] : Fin 1 → IVec S16 32) a x).toNat < S100000.size a)
instance k0_chk378.dec : ∀ (v527 : IVec S16 32), Decidable (k0_chk378 v527) := fun v527 => decidable_of_iff' _ (Iff.of_eq (k0_chk378.eq_1 v527))
theorem k0_idx378_inb : ∀ (v527 : IVec S16 32) (k0_hw378 : k0_chk378 v527), ∀ a x, ((![v527] : Fin 1 → IVec S16 32) a x).toNat < S100000.size a := fun v527 k0_hw378 => k0_hw378
def k0_off437 (k0_t36 : Fin k0_t36_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v529 : BitVec 32 := Scalar.addi v461 c144_i32_299
  let v530 : Index := Scalar.indexCast v529
  ![v530.toNat]

def k0_chk379 (v534 : IVec S16 32) : Prop :=
  (∀ a x, ((![v534] : Fin 1 → IVec S16 32) a x).toNat < S100000.size a)
instance k0_chk379.dec : ∀ (v534 : IVec S16 32), Decidable (k0_chk379 v534) := fun v534 => decidable_of_iff' _ (Iff.of_eq (k0_chk379.eq_1 v534))
theorem k0_idx379_inb : ∀ (v534 : IVec S16 32) (k0_hw379 : k0_chk379 v534), ∀ a x, ((![v534] : Fin 1 → IVec S16 32) a x).toNat < S100000.size a := fun v534 k0_hw379 => k0_hw379
def k0_off438 (k0_t36 : Fin k0_t36_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v536 : BitVec 32 := Scalar.addi v461 c160_i32_300
  let v537 : Index := Scalar.indexCast v536
  ![v537.toNat]

def k0_chk380 (v541 : IVec S16 32) : Prop :=
  (∀ a x, ((![v541] : Fin 1 → IVec S16 32) a x).toNat < S100000.size a)
instance k0_chk380.dec : ∀ (v541 : IVec S16 32), Decidable (k0_chk380 v541) := fun v541 => decidable_of_iff' _ (Iff.of_eq (k0_chk380.eq_1 v541))
theorem k0_idx380_inb : ∀ (v541 : IVec S16 32) (k0_hw380 : k0_chk380 v541), ∀ a x, ((![v541] : Fin 1 → IVec S16 32) a x).toNat < S100000.size a := fun v541 k0_hw380 => k0_hw380
def k0_off439 (k0_t36 : Fin k0_t36_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v543 : BitVec 32 := Scalar.addi v461 c176_i32_301
  let v544 : Index := Scalar.indexCast v543
  ![v544.toNat]

def k0_chk381 (v548 : IVec S16 32) : Prop :=
  (∀ a x, ((![v548] : Fin 1 → IVec S16 32) a x).toNat < S100000.size a)
instance k0_chk381.dec : ∀ (v548 : IVec S16 32), Decidable (k0_chk381 v548) := fun v548 => decidable_of_iff' _ (Iff.of_eq (k0_chk381.eq_1 v548))
theorem k0_idx381_inb : ∀ (v548 : IVec S16 32) (k0_hw381 : k0_chk381 v548), ∀ a x, ((![v548] : Fin 1 → IVec S16 32) a x).toNat < S100000.size a := fun v548 k0_hw381 => k0_hw381
def k0_off440 (k0_t36 : Fin k0_t36_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v550 : BitVec 32 := Scalar.addi v461 c192_i32_302
  let v551 : Index := Scalar.indexCast v550
  ![v551.toNat]

def k0_chk382 (v555 : IVec S16 32) : Prop :=
  (∀ a x, ((![v555] : Fin 1 → IVec S16 32) a x).toNat < S100000.size a)
instance k0_chk382.dec : ∀ (v555 : IVec S16 32), Decidable (k0_chk382 v555) := fun v555 => decidable_of_iff' _ (Iff.of_eq (k0_chk382.eq_1 v555))
theorem k0_idx382_inb : ∀ (v555 : IVec S16 32) (k0_hw382 : k0_chk382 v555), ∀ a x, ((![v555] : Fin 1 → IVec S16 32) a x).toNat < S100000.size a := fun v555 k0_hw382 => k0_hw382
def k0_off441 (k0_t36 : Fin k0_t36_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v557 : BitVec 32 := Scalar.addi v461 c208_i32_303
  let v558 : Index := Scalar.indexCast v557
  ![v558.toNat]

def k0_chk383 (v562 : IVec S16 32) : Prop :=
  (∀ a x, ((![v562] : Fin 1 → IVec S16 32) a x).toNat < S100000.size a)
instance k0_chk383.dec : ∀ (v562 : IVec S16 32), Decidable (k0_chk383 v562) := fun v562 => decidable_of_iff' _ (Iff.of_eq (k0_chk383.eq_1 v562))
theorem k0_idx383_inb : ∀ (v562 : IVec S16 32) (k0_hw383 : k0_chk383 v562), ∀ a x, ((![v562] : Fin 1 → IVec S16 32) a x).toNat < S100000.size a := fun v562 k0_hw383 => k0_hw383
def k0_off442 (k0_t36 : Fin k0_t36_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let v564 : BitVec 32 := Scalar.addi v461 c224_i32_304
  let v565 : Index := Scalar.indexCast v564
  ![v565.toNat]

def k0_chk384 (v569 : IVec S16 32) : Prop :=
  (∀ a x, ((![v569] : Fin 1 → IVec S16 32) a x).toNat < S100000.size a)
instance k0_chk384.dec : ∀ (v569 : IVec S16 32), Decidable (k0_chk384 v569) := fun v569 => decidable_of_iff' _ (Iff.of_eq (k0_chk384.eq_1 v569))
theorem k0_idx384_inb : ∀ (v569 : IVec S16 32) (k0_hw384 : k0_chk384 v569), ∀ a x, ((![v569] : Fin 1 → IVec S16 32) a x).toNat < S100000.size a := fun v569 k0_hw384 => k0_hw384
def k0_off443 (k0_t36 : Fin k0_t36_loop.trips) : Fin 1 → Nat :=
  let c0_i32_281 : BitVec 32 := 0#32
  let c1_i32_283 : BitVec 32 := 1#32
  let arg36 : BitVec 32 := Scf.iv c0_i32_281 c1_i32_283 k0_t36
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off444 (i : grid0.Coords) (k0_t34 : Fin (k0_t34_loop i).trips) : Fin 2 → Nat :=
  let c180_i32_285 : BitVec 32 := 180#32
  let c36_i32_65 : BitVec 32 := 36#32
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c180_i32 : BitVec 32 := 180#32
  let v119 : BitVec 32 := Scalar.subi v19 c180_i32
  let v120 : BitVec 32 := Scalar.maxsi c0_i32_64 v119
  let v121 : BitVec 32 := Scalar.minsi c36_i32_65 v120
  let c36_i32_68 : BitVec 32 := 36#32
  let c0_i32_67 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c180_i32_66 : BitVec 32 := 180#32
  let v122 : BitVec 32 := Scalar.subi v38 c180_i32_66
  let v123 : BitVec 32 := Scalar.maxsi c0_i32_67 v122
  let v124 : BitVec 32 := Scalar.minsi c36_i32_68 v123
  let v128 : BitVec 32 := Scalar.subi v124 v121
  let c1_i32_71 : BitVec 32 := 1#32
  let v130 : BitVec 32 := Scalar.divsi v128 c1_i32_71
  let v131 : BitVec 32 := Scalar.muli v130 c1_i32_71
  let v132 : BitVec 32 := Scalar.addi v121 v131
  let c1_i32_73 : BitVec 32 := 1#32
  let arg34 : BitVec 32 := Scf.iv v132 c1_i32_73 k0_t34
  let v460 : BitVec 32 := Scalar.addi c180_i32_285 arg34
  let c8192_i32_r47 : BitVec 32 := 8192#32
  ![v460.toNat, 8192]
@[reducible] def k0_t37_loop (i : grid0.Coords) : Scf.Loop 32 :=
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c36_i32_78 : BitVec 32 := 36#32
  let c0_i32_77 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_76 : BitVec 32 := 216#32
  let v138 : BitVec 32 := Scalar.subi v38 c216_i32_76
  let v139 : BitVec 32 := Scalar.maxsi c0_i32_77 v138
  let v140 : BitVec 32 := Scalar.minsi c36_i32_78 v139
  let v144 : BitVec 32 := Scalar.subi v140 v137
  let c1_i32_81 : BitVec 32 := 1#32
  let v146 : BitVec 32 := Scalar.divsi v144 c1_i32_81
  let v147 : BitVec 32 := Scalar.muli v146 c1_i32_81
  let v148 : BitVec 32 := Scalar.addi v137 v147
  let c1_i32_82 : BitVec 32 := 1#32
  ⟨v137, v148, c1_i32_82⟩
def k0_off445 (i : grid0.Coords) (k0_t37 : Fin (k0_t37_loop i).trips) : Fin 2 → Nat :=
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c1_i32_82 : BitVec 32 := 1#32
  let arg34 : BitVec 32 := Scf.iv v137 c1_i32_82 k0_t37
  let c0_i32_287_r50 : BitVec 32 := 0#32
  ![arg34.toNat, 0]
@[reducible] def k0_t38_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off446 (k0_t38 : Fin k0_t38_loop.trips) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk385 (v464 : IVec S16 32) : Prop :=
  (∀ a x, ((![v464] : Fin 1 → IVec S16 32) a x).toNat < S100000.size a)
instance k0_chk385.dec : ∀ (v464 : IVec S16 32), Decidable (k0_chk385 v464) := fun v464 => decidable_of_iff' _ (Iff.of_eq (k0_chk385.eq_1 v464))
theorem k0_idx385_inb : ∀ (v464 : IVec S16 32) (k0_hw385 : k0_chk385 v464), ∀ a x, ((![v464] : Fin 1 → IVec S16 32) a x).toNat < S100000.size a := fun v464 k0_hw385 => k0_hw385
def k0_off447 (k0_t38 : Fin k0_t38_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v466 : BitVec 32 := Scalar.addi v461 c0_i32_288
  let v467 : Index := Scalar.indexCast v466
  ![v467.toNat]

def k0_chk386 (v471 : IVec S16 32) : Prop :=
  (∀ a x, ((![v471] : Fin 1 → IVec S16 32) a x).toNat < S100000.size a)
instance k0_chk386.dec : ∀ (v471 : IVec S16 32), Decidable (k0_chk386 v471) := fun v471 => decidable_of_iff' _ (Iff.of_eq (k0_chk386.eq_1 v471))
theorem k0_idx386_inb : ∀ (v471 : IVec S16 32) (k0_hw386 : k0_chk386 v471), ∀ a x, ((![v471] : Fin 1 → IVec S16 32) a x).toNat < S100000.size a := fun v471 k0_hw386 => k0_hw386
def k0_off448 (k0_t38 : Fin k0_t38_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v473 : BitVec 32 := Scalar.addi v461 c16_i32_289
  let v474 : Index := Scalar.indexCast v473
  ![v474.toNat]

def k0_chk387 (v478 : IVec S16 32) : Prop :=
  (∀ a x, ((![v478] : Fin 1 → IVec S16 32) a x).toNat < S100000.size a)
instance k0_chk387.dec : ∀ (v478 : IVec S16 32), Decidable (k0_chk387 v478) := fun v478 => decidable_of_iff' _ (Iff.of_eq (k0_chk387.eq_1 v478))
theorem k0_idx387_inb : ∀ (v478 : IVec S16 32) (k0_hw387 : k0_chk387 v478), ∀ a x, ((![v478] : Fin 1 → IVec S16 32) a x).toNat < S100000.size a := fun v478 k0_hw387 => k0_hw387
def k0_off449 (k0_t38 : Fin k0_t38_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v480 : BitVec 32 := Scalar.addi v461 c32_i32_291
  let v481 : Index := Scalar.indexCast v480
  ![v481.toNat]

def k0_chk388 (v485 : IVec S16 32) : Prop :=
  (∀ a x, ((![v485] : Fin 1 → IVec S16 32) a x).toNat < S100000.size a)
instance k0_chk388.dec : ∀ (v485 : IVec S16 32), Decidable (k0_chk388 v485) := fun v485 => decidable_of_iff' _ (Iff.of_eq (k0_chk388.eq_1 v485))
theorem k0_idx388_inb : ∀ (v485 : IVec S16 32) (k0_hw388 : k0_chk388 v485), ∀ a x, ((![v485] : Fin 1 → IVec S16 32) a x).toNat < S100000.size a := fun v485 k0_hw388 => k0_hw388
def k0_off450 (k0_t38 : Fin k0_t38_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v487 : BitVec 32 := Scalar.addi v461 c48_i32_292
  let v488 : Index := Scalar.indexCast v487
  ![v488.toNat]

def k0_chk389 (v492 : IVec S16 32) : Prop :=
  (∀ a x, ((![v492] : Fin 1 → IVec S16 32) a x).toNat < S100000.size a)
instance k0_chk389.dec : ∀ (v492 : IVec S16 32), Decidable (k0_chk389 v492) := fun v492 => decidable_of_iff' _ (Iff.of_eq (k0_chk389.eq_1 v492))
theorem k0_idx389_inb : ∀ (v492 : IVec S16 32) (k0_hw389 : k0_chk389 v492), ∀ a x, ((![v492] : Fin 1 → IVec S16 32) a x).toNat < S100000.size a := fun v492 k0_hw389 => k0_hw389
def k0_off451 (k0_t38 : Fin k0_t38_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v494 : BitVec 32 := Scalar.addi v461 c64_i32_293
  let v495 : Index := Scalar.indexCast v494
  ![v495.toNat]

def k0_chk390 (v499 : IVec S16 32) : Prop :=
  (∀ a x, ((![v499] : Fin 1 → IVec S16 32) a x).toNat < S100000.size a)
instance k0_chk390.dec : ∀ (v499 : IVec S16 32), Decidable (k0_chk390 v499) := fun v499 => decidable_of_iff' _ (Iff.of_eq (k0_chk390.eq_1 v499))
theorem k0_idx390_inb : ∀ (v499 : IVec S16 32) (k0_hw390 : k0_chk390 v499), ∀ a x, ((![v499] : Fin 1 → IVec S16 32) a x).toNat < S100000.size a := fun v499 k0_hw390 => k0_hw390
def k0_off452 (k0_t38 : Fin k0_t38_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v501 : BitVec 32 := Scalar.addi v461 c80_i32_294
  let v502 : Index := Scalar.indexCast v501
  ![v502.toNat]

def k0_chk391 (v506 : IVec S16 32) : Prop :=
  (∀ a x, ((![v506] : Fin 1 → IVec S16 32) a x).toNat < S100000.size a)
instance k0_chk391.dec : ∀ (v506 : IVec S16 32), Decidable (k0_chk391 v506) := fun v506 => decidable_of_iff' _ (Iff.of_eq (k0_chk391.eq_1 v506))
theorem k0_idx391_inb : ∀ (v506 : IVec S16 32) (k0_hw391 : k0_chk391 v506), ∀ a x, ((![v506] : Fin 1 → IVec S16 32) a x).toNat < S100000.size a := fun v506 k0_hw391 => k0_hw391
def k0_off453 (k0_t38 : Fin k0_t38_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v508 : BitVec 32 := Scalar.addi v461 c96_i32_295
  let v509 : Index := Scalar.indexCast v508
  ![v509.toNat]

def k0_chk392 (v513 : IVec S16 32) : Prop :=
  (∀ a x, ((![v513] : Fin 1 → IVec S16 32) a x).toNat < S100000.size a)
instance k0_chk392.dec : ∀ (v513 : IVec S16 32), Decidable (k0_chk392 v513) := fun v513 => decidable_of_iff' _ (Iff.of_eq (k0_chk392.eq_1 v513))
theorem k0_idx392_inb : ∀ (v513 : IVec S16 32) (k0_hw392 : k0_chk392 v513), ∀ a x, ((![v513] : Fin 1 → IVec S16 32) a x).toNat < S100000.size a := fun v513 k0_hw392 => k0_hw392
def k0_off454 (k0_t38 : Fin k0_t38_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v515 : BitVec 32 := Scalar.addi v461 c112_i32_296
  let v516 : Index := Scalar.indexCast v515
  ![v516.toNat]

def k0_chk393 (v520 : IVec S16 32) : Prop :=
  (∀ a x, ((![v520] : Fin 1 → IVec S16 32) a x).toNat < S100000.size a)
instance k0_chk393.dec : ∀ (v520 : IVec S16 32), Decidable (k0_chk393 v520) := fun v520 => decidable_of_iff' _ (Iff.of_eq (k0_chk393.eq_1 v520))
theorem k0_idx393_inb : ∀ (v520 : IVec S16 32) (k0_hw393 : k0_chk393 v520), ∀ a x, ((![v520] : Fin 1 → IVec S16 32) a x).toNat < S100000.size a := fun v520 k0_hw393 => k0_hw393
def k0_off455 (k0_t38 : Fin k0_t38_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v522 : BitVec 32 := Scalar.addi v461 c128_i32_297
  let v523 : Index := Scalar.indexCast v522
  ![v523.toNat]

def k0_chk394 (v527 : IVec S16 32) : Prop :=
  (∀ a x, ((![v527] : Fin 1 → IVec S16 32) a x).toNat < S100000.size a)
instance k0_chk394.dec : ∀ (v527 : IVec S16 32), Decidable (k0_chk394 v527) := fun v527 => decidable_of_iff' _ (Iff.of_eq (k0_chk394.eq_1 v527))
theorem k0_idx394_inb : ∀ (v527 : IVec S16 32) (k0_hw394 : k0_chk394 v527), ∀ a x, ((![v527] : Fin 1 → IVec S16 32) a x).toNat < S100000.size a := fun v527 k0_hw394 => k0_hw394
def k0_off456 (k0_t38 : Fin k0_t38_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v529 : BitVec 32 := Scalar.addi v461 c144_i32_299
  let v530 : Index := Scalar.indexCast v529
  ![v530.toNat]

def k0_chk395 (v534 : IVec S16 32) : Prop :=
  (∀ a x, ((![v534] : Fin 1 → IVec S16 32) a x).toNat < S100000.size a)
instance k0_chk395.dec : ∀ (v534 : IVec S16 32), Decidable (k0_chk395 v534) := fun v534 => decidable_of_iff' _ (Iff.of_eq (k0_chk395.eq_1 v534))
theorem k0_idx395_inb : ∀ (v534 : IVec S16 32) (k0_hw395 : k0_chk395 v534), ∀ a x, ((![v534] : Fin 1 → IVec S16 32) a x).toNat < S100000.size a := fun v534 k0_hw395 => k0_hw395
def k0_off457 (k0_t38 : Fin k0_t38_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v536 : BitVec 32 := Scalar.addi v461 c160_i32_300
  let v537 : Index := Scalar.indexCast v536
  ![v537.toNat]

def k0_chk396 (v541 : IVec S16 32) : Prop :=
  (∀ a x, ((![v541] : Fin 1 → IVec S16 32) a x).toNat < S100000.size a)
instance k0_chk396.dec : ∀ (v541 : IVec S16 32), Decidable (k0_chk396 v541) := fun v541 => decidable_of_iff' _ (Iff.of_eq (k0_chk396.eq_1 v541))
theorem k0_idx396_inb : ∀ (v541 : IVec S16 32) (k0_hw396 : k0_chk396 v541), ∀ a x, ((![v541] : Fin 1 → IVec S16 32) a x).toNat < S100000.size a := fun v541 k0_hw396 => k0_hw396
def k0_off458 (k0_t38 : Fin k0_t38_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v543 : BitVec 32 := Scalar.addi v461 c176_i32_301
  let v544 : Index := Scalar.indexCast v543
  ![v544.toNat]

def k0_chk397 (v548 : IVec S16 32) : Prop :=
  (∀ a x, ((![v548] : Fin 1 → IVec S16 32) a x).toNat < S100000.size a)
instance k0_chk397.dec : ∀ (v548 : IVec S16 32), Decidable (k0_chk397 v548) := fun v548 => decidable_of_iff' _ (Iff.of_eq (k0_chk397.eq_1 v548))
theorem k0_idx397_inb : ∀ (v548 : IVec S16 32) (k0_hw397 : k0_chk397 v548), ∀ a x, ((![v548] : Fin 1 → IVec S16 32) a x).toNat < S100000.size a := fun v548 k0_hw397 => k0_hw397
def k0_off459 (k0_t38 : Fin k0_t38_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v550 : BitVec 32 := Scalar.addi v461 c192_i32_302
  let v551 : Index := Scalar.indexCast v550
  ![v551.toNat]

def k0_chk398 (v555 : IVec S16 32) : Prop :=
  (∀ a x, ((![v555] : Fin 1 → IVec S16 32) a x).toNat < S100000.size a)
instance k0_chk398.dec : ∀ (v555 : IVec S16 32), Decidable (k0_chk398 v555) := fun v555 => decidable_of_iff' _ (Iff.of_eq (k0_chk398.eq_1 v555))
theorem k0_idx398_inb : ∀ (v555 : IVec S16 32) (k0_hw398 : k0_chk398 v555), ∀ a x, ((![v555] : Fin 1 → IVec S16 32) a x).toNat < S100000.size a := fun v555 k0_hw398 => k0_hw398
def k0_off460 (k0_t38 : Fin k0_t38_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v557 : BitVec 32 := Scalar.addi v461 c208_i32_303
  let v558 : Index := Scalar.indexCast v557
  ![v558.toNat]

def k0_chk399 (v562 : IVec S16 32) : Prop :=
  (∀ a x, ((![v562] : Fin 1 → IVec S16 32) a x).toNat < S100000.size a)
instance k0_chk399.dec : ∀ (v562 : IVec S16 32), Decidable (k0_chk399 v562) := fun v562 => decidable_of_iff' _ (Iff.of_eq (k0_chk399.eq_1 v562))
theorem k0_idx399_inb : ∀ (v562 : IVec S16 32) (k0_hw399 : k0_chk399 v562), ∀ a x, ((![v562] : Fin 1 → IVec S16 32) a x).toNat < S100000.size a := fun v562 k0_hw399 => k0_hw399
def k0_off461 (k0_t38 : Fin k0_t38_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let v564 : BitVec 32 := Scalar.addi v461 c224_i32_304
  let v565 : Index := Scalar.indexCast v564
  ![v565.toNat]

def k0_chk400 (v569 : IVec S16 32) : Prop :=
  (∀ a x, ((![v569] : Fin 1 → IVec S16 32) a x).toNat < S100000.size a)
instance k0_chk400.dec : ∀ (v569 : IVec S16 32), Decidable (k0_chk400 v569) := fun v569 => decidable_of_iff' _ (Iff.of_eq (k0_chk400.eq_1 v569))
theorem k0_idx400_inb : ∀ (v569 : IVec S16 32) (k0_hw400 : k0_chk400 v569), ∀ a x, ((![v569] : Fin 1 → IVec S16 32) a x).toNat < S100000.size a := fun v569 k0_hw400 => k0_hw400
def k0_off462 (k0_t38 : Fin k0_t38_loop.trips) : Fin 1 → Nat :=
  let c0_i32_275 : BitVec 32 := 0#32
  let c1_i32_277 : BitVec 32 := 1#32
  let arg36 : BitVec 32 := Scf.iv c0_i32_275 c1_i32_277 k0_t38
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off463 (i : grid0.Coords) (k0_t37 : Fin (k0_t37_loop i).trips) : Fin 2 → Nat :=
  let c216_i32_279 : BitVec 32 := 216#32
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c1_i32_82 : BitVec 32 := 1#32
  let arg34 : BitVec 32 := Scf.iv v137 c1_i32_82 k0_t37
  let v457 : BitVec 32 := Scalar.addi c216_i32_279 arg34
  let c0_i32_287_r51 : BitVec 32 := 0#32
  ![v457.toNat, 0]
@[reducible] def k0_t39_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off464 (k0_t39 : Fin k0_t39_loop.trips) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk401 (v464 : IVec S16 32) : Prop :=
  (∀ a x, ((![v464] : Fin 1 → IVec S16 32) a x).toNat < S100000.size a)
instance k0_chk401.dec : ∀ (v464 : IVec S16 32), Decidable (k0_chk401 v464) := fun v464 => decidable_of_iff' _ (Iff.of_eq (k0_chk401.eq_1 v464))
theorem k0_idx401_inb : ∀ (v464 : IVec S16 32) (k0_hw401 : k0_chk401 v464), ∀ a x, ((![v464] : Fin 1 → IVec S16 32) a x).toNat < S100000.size a := fun v464 k0_hw401 => k0_hw401
def k0_off465 (k0_t39 : Fin k0_t39_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v466 : BitVec 32 := Scalar.addi v461 c0_i32_288
  let v467 : Index := Scalar.indexCast v466
  ![v467.toNat]

def k0_chk402 (v471 : IVec S16 32) : Prop :=
  (∀ a x, ((![v471] : Fin 1 → IVec S16 32) a x).toNat < S100000.size a)
instance k0_chk402.dec : ∀ (v471 : IVec S16 32), Decidable (k0_chk402 v471) := fun v471 => decidable_of_iff' _ (Iff.of_eq (k0_chk402.eq_1 v471))
theorem k0_idx402_inb : ∀ (v471 : IVec S16 32) (k0_hw402 : k0_chk402 v471), ∀ a x, ((![v471] : Fin 1 → IVec S16 32) a x).toNat < S100000.size a := fun v471 k0_hw402 => k0_hw402
def k0_off466 (k0_t39 : Fin k0_t39_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v473 : BitVec 32 := Scalar.addi v461 c16_i32_289
  let v474 : Index := Scalar.indexCast v473
  ![v474.toNat]

def k0_chk403 (v478 : IVec S16 32) : Prop :=
  (∀ a x, ((![v478] : Fin 1 → IVec S16 32) a x).toNat < S100000.size a)
instance k0_chk403.dec : ∀ (v478 : IVec S16 32), Decidable (k0_chk403 v478) := fun v478 => decidable_of_iff' _ (Iff.of_eq (k0_chk403.eq_1 v478))
theorem k0_idx403_inb : ∀ (v478 : IVec S16 32) (k0_hw403 : k0_chk403 v478), ∀ a x, ((![v478] : Fin 1 → IVec S16 32) a x).toNat < S100000.size a := fun v478 k0_hw403 => k0_hw403
def k0_off467 (k0_t39 : Fin k0_t39_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v480 : BitVec 32 := Scalar.addi v461 c32_i32_291
  let v481 : Index := Scalar.indexCast v480
  ![v481.toNat]

def k0_chk404 (v485 : IVec S16 32) : Prop :=
  (∀ a x, ((![v485] : Fin 1 → IVec S16 32) a x).toNat < S100000.size a)
instance k0_chk404.dec : ∀ (v485 : IVec S16 32), Decidable (k0_chk404 v485) := fun v485 => decidable_of_iff' _ (Iff.of_eq (k0_chk404.eq_1 v485))
theorem k0_idx404_inb : ∀ (v485 : IVec S16 32) (k0_hw404 : k0_chk404 v485), ∀ a x, ((![v485] : Fin 1 → IVec S16 32) a x).toNat < S100000.size a := fun v485 k0_hw404 => k0_hw404
def k0_off468 (k0_t39 : Fin k0_t39_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v487 : BitVec 32 := Scalar.addi v461 c48_i32_292
  let v488 : Index := Scalar.indexCast v487
  ![v488.toNat]

def k0_chk405 (v492 : IVec S16 32) : Prop :=
  (∀ a x, ((![v492] : Fin 1 → IVec S16 32) a x).toNat < S100000.size a)
instance k0_chk405.dec : ∀ (v492 : IVec S16 32), Decidable (k0_chk405 v492) := fun v492 => decidable_of_iff' _ (Iff.of_eq (k0_chk405.eq_1 v492))
theorem k0_idx405_inb : ∀ (v492 : IVec S16 32) (k0_hw405 : k0_chk405 v492), ∀ a x, ((![v492] : Fin 1 → IVec S16 32) a x).toNat < S100000.size a := fun v492 k0_hw405 => k0_hw405
def k0_off469 (k0_t39 : Fin k0_t39_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v494 : BitVec 32 := Scalar.addi v461 c64_i32_293
  let v495 : Index := Scalar.indexCast v494
  ![v495.toNat]

def k0_chk406 (v499 : IVec S16 32) : Prop :=
  (∀ a x, ((![v499] : Fin 1 → IVec S16 32) a x).toNat < S100000.size a)
instance k0_chk406.dec : ∀ (v499 : IVec S16 32), Decidable (k0_chk406 v499) := fun v499 => decidable_of_iff' _ (Iff.of_eq (k0_chk406.eq_1 v499))
theorem k0_idx406_inb : ∀ (v499 : IVec S16 32) (k0_hw406 : k0_chk406 v499), ∀ a x, ((![v499] : Fin 1 → IVec S16 32) a x).toNat < S100000.size a := fun v499 k0_hw406 => k0_hw406
def k0_off470 (k0_t39 : Fin k0_t39_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v501 : BitVec 32 := Scalar.addi v461 c80_i32_294
  let v502 : Index := Scalar.indexCast v501
  ![v502.toNat]

def k0_chk407 (v506 : IVec S16 32) : Prop :=
  (∀ a x, ((![v506] : Fin 1 → IVec S16 32) a x).toNat < S100000.size a)
instance k0_chk407.dec : ∀ (v506 : IVec S16 32), Decidable (k0_chk407 v506) := fun v506 => decidable_of_iff' _ (Iff.of_eq (k0_chk407.eq_1 v506))
theorem k0_idx407_inb : ∀ (v506 : IVec S16 32) (k0_hw407 : k0_chk407 v506), ∀ a x, ((![v506] : Fin 1 → IVec S16 32) a x).toNat < S100000.size a := fun v506 k0_hw407 => k0_hw407
def k0_off471 (k0_t39 : Fin k0_t39_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v508 : BitVec 32 := Scalar.addi v461 c96_i32_295
  let v509 : Index := Scalar.indexCast v508
  ![v509.toNat]

def k0_chk408 (v513 : IVec S16 32) : Prop :=
  (∀ a x, ((![v513] : Fin 1 → IVec S16 32) a x).toNat < S100000.size a)
instance k0_chk408.dec : ∀ (v513 : IVec S16 32), Decidable (k0_chk408 v513) := fun v513 => decidable_of_iff' _ (Iff.of_eq (k0_chk408.eq_1 v513))
theorem k0_idx408_inb : ∀ (v513 : IVec S16 32) (k0_hw408 : k0_chk408 v513), ∀ a x, ((![v513] : Fin 1 → IVec S16 32) a x).toNat < S100000.size a := fun v513 k0_hw408 => k0_hw408
def k0_off472 (k0_t39 : Fin k0_t39_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v515 : BitVec 32 := Scalar.addi v461 c112_i32_296
  let v516 : Index := Scalar.indexCast v515
  ![v516.toNat]

def k0_chk409 (v520 : IVec S16 32) : Prop :=
  (∀ a x, ((![v520] : Fin 1 → IVec S16 32) a x).toNat < S100000.size a)
instance k0_chk409.dec : ∀ (v520 : IVec S16 32), Decidable (k0_chk409 v520) := fun v520 => decidable_of_iff' _ (Iff.of_eq (k0_chk409.eq_1 v520))
theorem k0_idx409_inb : ∀ (v520 : IVec S16 32) (k0_hw409 : k0_chk409 v520), ∀ a x, ((![v520] : Fin 1 → IVec S16 32) a x).toNat < S100000.size a := fun v520 k0_hw409 => k0_hw409
def k0_off473 (k0_t39 : Fin k0_t39_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v522 : BitVec 32 := Scalar.addi v461 c128_i32_297
  let v523 : Index := Scalar.indexCast v522
  ![v523.toNat]

def k0_chk410 (v527 : IVec S16 32) : Prop :=
  (∀ a x, ((![v527] : Fin 1 → IVec S16 32) a x).toNat < S100000.size a)
instance k0_chk410.dec : ∀ (v527 : IVec S16 32), Decidable (k0_chk410 v527) := fun v527 => decidable_of_iff' _ (Iff.of_eq (k0_chk410.eq_1 v527))
theorem k0_idx410_inb : ∀ (v527 : IVec S16 32) (k0_hw410 : k0_chk410 v527), ∀ a x, ((![v527] : Fin 1 → IVec S16 32) a x).toNat < S100000.size a := fun v527 k0_hw410 => k0_hw410
def k0_off474 (k0_t39 : Fin k0_t39_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v529 : BitVec 32 := Scalar.addi v461 c144_i32_299
  let v530 : Index := Scalar.indexCast v529
  ![v530.toNat]

def k0_chk411 (v534 : IVec S16 32) : Prop :=
  (∀ a x, ((![v534] : Fin 1 → IVec S16 32) a x).toNat < S100000.size a)
instance k0_chk411.dec : ∀ (v534 : IVec S16 32), Decidable (k0_chk411 v534) := fun v534 => decidable_of_iff' _ (Iff.of_eq (k0_chk411.eq_1 v534))
theorem k0_idx411_inb : ∀ (v534 : IVec S16 32) (k0_hw411 : k0_chk411 v534), ∀ a x, ((![v534] : Fin 1 → IVec S16 32) a x).toNat < S100000.size a := fun v534 k0_hw411 => k0_hw411
def k0_off475 (k0_t39 : Fin k0_t39_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v536 : BitVec 32 := Scalar.addi v461 c160_i32_300
  let v537 : Index := Scalar.indexCast v536
  ![v537.toNat]

def k0_chk412 (v541 : IVec S16 32) : Prop :=
  (∀ a x, ((![v541] : Fin 1 → IVec S16 32) a x).toNat < S100000.size a)
instance k0_chk412.dec : ∀ (v541 : IVec S16 32), Decidable (k0_chk412 v541) := fun v541 => decidable_of_iff' _ (Iff.of_eq (k0_chk412.eq_1 v541))
theorem k0_idx412_inb : ∀ (v541 : IVec S16 32) (k0_hw412 : k0_chk412 v541), ∀ a x, ((![v541] : Fin 1 → IVec S16 32) a x).toNat < S100000.size a := fun v541 k0_hw412 => k0_hw412
def k0_off476 (k0_t39 : Fin k0_t39_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v543 : BitVec 32 := Scalar.addi v461 c176_i32_301
  let v544 : Index := Scalar.indexCast v543
  ![v544.toNat]

def k0_chk413 (v548 : IVec S16 32) : Prop :=
  (∀ a x, ((![v548] : Fin 1 → IVec S16 32) a x).toNat < S100000.size a)
instance k0_chk413.dec : ∀ (v548 : IVec S16 32), Decidable (k0_chk413 v548) := fun v548 => decidable_of_iff' _ (Iff.of_eq (k0_chk413.eq_1 v548))
theorem k0_idx413_inb : ∀ (v548 : IVec S16 32) (k0_hw413 : k0_chk413 v548), ∀ a x, ((![v548] : Fin 1 → IVec S16 32) a x).toNat < S100000.size a := fun v548 k0_hw413 => k0_hw413
def k0_off477 (k0_t39 : Fin k0_t39_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v550 : BitVec 32 := Scalar.addi v461 c192_i32_302
  let v551 : Index := Scalar.indexCast v550
  ![v551.toNat]

def k0_chk414 (v555 : IVec S16 32) : Prop :=
  (∀ a x, ((![v555] : Fin 1 → IVec S16 32) a x).toNat < S100000.size a)
instance k0_chk414.dec : ∀ (v555 : IVec S16 32), Decidable (k0_chk414 v555) := fun v555 => decidable_of_iff' _ (Iff.of_eq (k0_chk414.eq_1 v555))
theorem k0_idx414_inb : ∀ (v555 : IVec S16 32) (k0_hw414 : k0_chk414 v555), ∀ a x, ((![v555] : Fin 1 → IVec S16 32) a x).toNat < S100000.size a := fun v555 k0_hw414 => k0_hw414
def k0_off478 (k0_t39 : Fin k0_t39_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v557 : BitVec 32 := Scalar.addi v461 c208_i32_303
  let v558 : Index := Scalar.indexCast v557
  ![v558.toNat]

def k0_chk415 (v562 : IVec S16 32) : Prop :=
  (∀ a x, ((![v562] : Fin 1 → IVec S16 32) a x).toNat < S100000.size a)
instance k0_chk415.dec : ∀ (v562 : IVec S16 32), Decidable (k0_chk415 v562) := fun v562 => decidable_of_iff' _ (Iff.of_eq (k0_chk415.eq_1 v562))
theorem k0_idx415_inb : ∀ (v562 : IVec S16 32) (k0_hw415 : k0_chk415 v562), ∀ a x, ((![v562] : Fin 1 → IVec S16 32) a x).toNat < S100000.size a := fun v562 k0_hw415 => k0_hw415
def k0_off479 (k0_t39 : Fin k0_t39_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let v564 : BitVec 32 := Scalar.addi v461 c224_i32_304
  let v565 : Index := Scalar.indexCast v564
  ![v565.toNat]

def k0_chk416 (v569 : IVec S16 32) : Prop :=
  (∀ a x, ((![v569] : Fin 1 → IVec S16 32) a x).toNat < S100000.size a)
instance k0_chk416.dec : ∀ (v569 : IVec S16 32), Decidable (k0_chk416 v569) := fun v569 => decidable_of_iff' _ (Iff.of_eq (k0_chk416.eq_1 v569))
theorem k0_idx416_inb : ∀ (v569 : IVec S16 32) (k0_hw416 : k0_chk416 v569), ∀ a x, ((![v569] : Fin 1 → IVec S16 32) a x).toNat < S100000.size a := fun v569 k0_hw416 => k0_hw416
def k0_off480 (k0_t39 : Fin k0_t39_loop.trips) : Fin 1 → Nat :=
  let c0_i32_281 : BitVec 32 := 0#32
  let c1_i32_283 : BitVec 32 := 1#32
  let arg36 : BitVec 32 := Scf.iv c0_i32_281 c1_i32_283 k0_t39
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off481 (i : grid0.Coords) (k0_t37 : Fin (k0_t37_loop i).trips) : Fin 2 → Nat :=
  let c216_i32_285 : BitVec 32 := 216#32
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c1_i32_82 : BitVec 32 := 1#32
  let arg34 : BitVec 32 := Scf.iv v137 c1_i32_82 k0_t37
  let v460 : BitVec 32 := Scalar.addi c216_i32_285 arg34
  let c8192_i32_r52 : BitVec 32 := 8192#32
  ![v460.toNat, 8192]
@[reducible] def k0_t40_loop (i : grid0.Coords) : Scf.Loop 32 :=
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c36_i32_78 : BitVec 32 := 36#32
  let c0_i32_77 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_76 : BitVec 32 := 216#32
  let v138 : BitVec 32 := Scalar.subi v38 c216_i32_76
  let v139 : BitVec 32 := Scalar.maxsi c0_i32_77 v138
  let v140 : BitVec 32 := Scalar.minsi c36_i32_78 v139
  let v144 : BitVec 32 := Scalar.subi v140 v137
  let c1_i32_81 : BitVec 32 := 1#32
  let v146 : BitVec 32 := Scalar.divsi v144 c1_i32_81
  let v147 : BitVec 32 := Scalar.muli v146 c1_i32_81
  let v148 : BitVec 32 := Scalar.addi v137 v147
  let v145 : BitVec 32 := Scalar.addi v137 v144
  let c1_i32_83 : BitVec 32 := 1#32
  ⟨v148, v145, c1_i32_83⟩
def k0_off482 (i : grid0.Coords) (k0_t40 : Fin (k0_t40_loop i).trips) : Fin 2 → Nat :=
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c36_i32_78 : BitVec 32 := 36#32
  let c0_i32_77 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_76 : BitVec 32 := 216#32
  let v138 : BitVec 32 := Scalar.subi v38 c216_i32_76
  let v139 : BitVec 32 := Scalar.maxsi c0_i32_77 v138
  let v140 : BitVec 32 := Scalar.minsi c36_i32_78 v139
  let v144 : BitVec 32 := Scalar.subi v140 v137
  let c1_i32_81 : BitVec 32 := 1#32
  let v146 : BitVec 32 := Scalar.divsi v144 c1_i32_81
  let v147 : BitVec 32 := Scalar.muli v146 c1_i32_81
  let v148 : BitVec 32 := Scalar.addi v137 v147
  let c1_i32_83 : BitVec 32 := 1#32
  let arg34 : BitVec 32 := Scf.iv v148 c1_i32_83 k0_t40
  let c0_i32_287_r53 : BitVec 32 := 0#32
  ![arg34.toNat, 0]
@[reducible] def k0_t41_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off483 (k0_t41 : Fin k0_t41_loop.trips) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk417 (v464 : IVec S16 32) : Prop :=
  (∀ a x, ((![v464] : Fin 1 → IVec S16 32) a x).toNat < S100000.size a)
instance k0_chk417.dec : ∀ (v464 : IVec S16 32), Decidable (k0_chk417 v464) := fun v464 => decidable_of_iff' _ (Iff.of_eq (k0_chk417.eq_1 v464))
theorem k0_idx417_inb : ∀ (v464 : IVec S16 32) (k0_hw417 : k0_chk417 v464), ∀ a x, ((![v464] : Fin 1 → IVec S16 32) a x).toNat < S100000.size a := fun v464 k0_hw417 => k0_hw417
def k0_off484 (k0_t41 : Fin k0_t41_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v466 : BitVec 32 := Scalar.addi v461 c0_i32_288
  let v467 : Index := Scalar.indexCast v466
  ![v467.toNat]

def k0_chk418 (v471 : IVec S16 32) : Prop :=
  (∀ a x, ((![v471] : Fin 1 → IVec S16 32) a x).toNat < S100000.size a)
instance k0_chk418.dec : ∀ (v471 : IVec S16 32), Decidable (k0_chk418 v471) := fun v471 => decidable_of_iff' _ (Iff.of_eq (k0_chk418.eq_1 v471))
theorem k0_idx418_inb : ∀ (v471 : IVec S16 32) (k0_hw418 : k0_chk418 v471), ∀ a x, ((![v471] : Fin 1 → IVec S16 32) a x).toNat < S100000.size a := fun v471 k0_hw418 => k0_hw418
def k0_off485 (k0_t41 : Fin k0_t41_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v473 : BitVec 32 := Scalar.addi v461 c16_i32_289
  let v474 : Index := Scalar.indexCast v473
  ![v474.toNat]

def k0_chk419 (v478 : IVec S16 32) : Prop :=
  (∀ a x, ((![v478] : Fin 1 → IVec S16 32) a x).toNat < S100000.size a)
instance k0_chk419.dec : ∀ (v478 : IVec S16 32), Decidable (k0_chk419 v478) := fun v478 => decidable_of_iff' _ (Iff.of_eq (k0_chk419.eq_1 v478))
theorem k0_idx419_inb : ∀ (v478 : IVec S16 32) (k0_hw419 : k0_chk419 v478), ∀ a x, ((![v478] : Fin 1 → IVec S16 32) a x).toNat < S100000.size a := fun v478 k0_hw419 => k0_hw419
def k0_off486 (k0_t41 : Fin k0_t41_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v480 : BitVec 32 := Scalar.addi v461 c32_i32_291
  let v481 : Index := Scalar.indexCast v480
  ![v481.toNat]

def k0_chk420 (v485 : IVec S16 32) : Prop :=
  (∀ a x, ((![v485] : Fin 1 → IVec S16 32) a x).toNat < S100000.size a)
instance k0_chk420.dec : ∀ (v485 : IVec S16 32), Decidable (k0_chk420 v485) := fun v485 => decidable_of_iff' _ (Iff.of_eq (k0_chk420.eq_1 v485))
theorem k0_idx420_inb : ∀ (v485 : IVec S16 32) (k0_hw420 : k0_chk420 v485), ∀ a x, ((![v485] : Fin 1 → IVec S16 32) a x).toNat < S100000.size a := fun v485 k0_hw420 => k0_hw420
def k0_off487 (k0_t41 : Fin k0_t41_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v487 : BitVec 32 := Scalar.addi v461 c48_i32_292
  let v488 : Index := Scalar.indexCast v487
  ![v488.toNat]

def k0_chk421 (v492 : IVec S16 32) : Prop :=
  (∀ a x, ((![v492] : Fin 1 → IVec S16 32) a x).toNat < S100000.size a)
instance k0_chk421.dec : ∀ (v492 : IVec S16 32), Decidable (k0_chk421 v492) := fun v492 => decidable_of_iff' _ (Iff.of_eq (k0_chk421.eq_1 v492))
theorem k0_idx421_inb : ∀ (v492 : IVec S16 32) (k0_hw421 : k0_chk421 v492), ∀ a x, ((![v492] : Fin 1 → IVec S16 32) a x).toNat < S100000.size a := fun v492 k0_hw421 => k0_hw421
def k0_off488 (k0_t41 : Fin k0_t41_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v494 : BitVec 32 := Scalar.addi v461 c64_i32_293
  let v495 : Index := Scalar.indexCast v494
  ![v495.toNat]

def k0_chk422 (v499 : IVec S16 32) : Prop :=
  (∀ a x, ((![v499] : Fin 1 → IVec S16 32) a x).toNat < S100000.size a)
instance k0_chk422.dec : ∀ (v499 : IVec S16 32), Decidable (k0_chk422 v499) := fun v499 => decidable_of_iff' _ (Iff.of_eq (k0_chk422.eq_1 v499))
theorem k0_idx422_inb : ∀ (v499 : IVec S16 32) (k0_hw422 : k0_chk422 v499), ∀ a x, ((![v499] : Fin 1 → IVec S16 32) a x).toNat < S100000.size a := fun v499 k0_hw422 => k0_hw422
def k0_off489 (k0_t41 : Fin k0_t41_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v501 : BitVec 32 := Scalar.addi v461 c80_i32_294
  let v502 : Index := Scalar.indexCast v501
  ![v502.toNat]

def k0_chk423 (v506 : IVec S16 32) : Prop :=
  (∀ a x, ((![v506] : Fin 1 → IVec S16 32) a x).toNat < S100000.size a)
instance k0_chk423.dec : ∀ (v506 : IVec S16 32), Decidable (k0_chk423 v506) := fun v506 => decidable_of_iff' _ (Iff.of_eq (k0_chk423.eq_1 v506))
theorem k0_idx423_inb : ∀ (v506 : IVec S16 32) (k0_hw423 : k0_chk423 v506), ∀ a x, ((![v506] : Fin 1 → IVec S16 32) a x).toNat < S100000.size a := fun v506 k0_hw423 => k0_hw423
def k0_off490 (k0_t41 : Fin k0_t41_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v508 : BitVec 32 := Scalar.addi v461 c96_i32_295
  let v509 : Index := Scalar.indexCast v508
  ![v509.toNat]

def k0_chk424 (v513 : IVec S16 32) : Prop :=
  (∀ a x, ((![v513] : Fin 1 → IVec S16 32) a x).toNat < S100000.size a)
instance k0_chk424.dec : ∀ (v513 : IVec S16 32), Decidable (k0_chk424 v513) := fun v513 => decidable_of_iff' _ (Iff.of_eq (k0_chk424.eq_1 v513))
theorem k0_idx424_inb : ∀ (v513 : IVec S16 32) (k0_hw424 : k0_chk424 v513), ∀ a x, ((![v513] : Fin 1 → IVec S16 32) a x).toNat < S100000.size a := fun v513 k0_hw424 => k0_hw424
def k0_off491 (k0_t41 : Fin k0_t41_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v515 : BitVec 32 := Scalar.addi v461 c112_i32_296
  let v516 : Index := Scalar.indexCast v515
  ![v516.toNat]

def k0_chk425 (v520 : IVec S16 32) : Prop :=
  (∀ a x, ((![v520] : Fin 1 → IVec S16 32) a x).toNat < S100000.size a)
instance k0_chk425.dec : ∀ (v520 : IVec S16 32), Decidable (k0_chk425 v520) := fun v520 => decidable_of_iff' _ (Iff.of_eq (k0_chk425.eq_1 v520))
theorem k0_idx425_inb : ∀ (v520 : IVec S16 32) (k0_hw425 : k0_chk425 v520), ∀ a x, ((![v520] : Fin 1 → IVec S16 32) a x).toNat < S100000.size a := fun v520 k0_hw425 => k0_hw425
def k0_off492 (k0_t41 : Fin k0_t41_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v522 : BitVec 32 := Scalar.addi v461 c128_i32_297
  let v523 : Index := Scalar.indexCast v522
  ![v523.toNat]

def k0_chk426 (v527 : IVec S16 32) : Prop :=
  (∀ a x, ((![v527] : Fin 1 → IVec S16 32) a x).toNat < S100000.size a)
instance k0_chk426.dec : ∀ (v527 : IVec S16 32), Decidable (k0_chk426 v527) := fun v527 => decidable_of_iff' _ (Iff.of_eq (k0_chk426.eq_1 v527))
theorem k0_idx426_inb : ∀ (v527 : IVec S16 32) (k0_hw426 : k0_chk426 v527), ∀ a x, ((![v527] : Fin 1 → IVec S16 32) a x).toNat < S100000.size a := fun v527 k0_hw426 => k0_hw426
def k0_off493 (k0_t41 : Fin k0_t41_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v529 : BitVec 32 := Scalar.addi v461 c144_i32_299
  let v530 : Index := Scalar.indexCast v529
  ![v530.toNat]

def k0_chk427 (v534 : IVec S16 32) : Prop :=
  (∀ a x, ((![v534] : Fin 1 → IVec S16 32) a x).toNat < S100000.size a)
instance k0_chk427.dec : ∀ (v534 : IVec S16 32), Decidable (k0_chk427 v534) := fun v534 => decidable_of_iff' _ (Iff.of_eq (k0_chk427.eq_1 v534))
theorem k0_idx427_inb : ∀ (v534 : IVec S16 32) (k0_hw427 : k0_chk427 v534), ∀ a x, ((![v534] : Fin 1 → IVec S16 32) a x).toNat < S100000.size a := fun v534 k0_hw427 => k0_hw427
def k0_off494 (k0_t41 : Fin k0_t41_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v536 : BitVec 32 := Scalar.addi v461 c160_i32_300
  let v537 : Index := Scalar.indexCast v536
  ![v537.toNat]

def k0_chk428 (v541 : IVec S16 32) : Prop :=
  (∀ a x, ((![v541] : Fin 1 → IVec S16 32) a x).toNat < S100000.size a)
instance k0_chk428.dec : ∀ (v541 : IVec S16 32), Decidable (k0_chk428 v541) := fun v541 => decidable_of_iff' _ (Iff.of_eq (k0_chk428.eq_1 v541))
theorem k0_idx428_inb : ∀ (v541 : IVec S16 32) (k0_hw428 : k0_chk428 v541), ∀ a x, ((![v541] : Fin 1 → IVec S16 32) a x).toNat < S100000.size a := fun v541 k0_hw428 => k0_hw428
def k0_off495 (k0_t41 : Fin k0_t41_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v543 : BitVec 32 := Scalar.addi v461 c176_i32_301
  let v544 : Index := Scalar.indexCast v543
  ![v544.toNat]

def k0_chk429 (v548 : IVec S16 32) : Prop :=
  (∀ a x, ((![v548] : Fin 1 → IVec S16 32) a x).toNat < S100000.size a)
instance k0_chk429.dec : ∀ (v548 : IVec S16 32), Decidable (k0_chk429 v548) := fun v548 => decidable_of_iff' _ (Iff.of_eq (k0_chk429.eq_1 v548))
theorem k0_idx429_inb : ∀ (v548 : IVec S16 32) (k0_hw429 : k0_chk429 v548), ∀ a x, ((![v548] : Fin 1 → IVec S16 32) a x).toNat < S100000.size a := fun v548 k0_hw429 => k0_hw429
def k0_off496 (k0_t41 : Fin k0_t41_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v550 : BitVec 32 := Scalar.addi v461 c192_i32_302
  let v551 : Index := Scalar.indexCast v550
  ![v551.toNat]

def k0_chk430 (v555 : IVec S16 32) : Prop :=
  (∀ a x, ((![v555] : Fin 1 → IVec S16 32) a x).toNat < S100000.size a)
instance k0_chk430.dec : ∀ (v555 : IVec S16 32), Decidable (k0_chk430 v555) := fun v555 => decidable_of_iff' _ (Iff.of_eq (k0_chk430.eq_1 v555))
theorem k0_idx430_inb : ∀ (v555 : IVec S16 32) (k0_hw430 : k0_chk430 v555), ∀ a x, ((![v555] : Fin 1 → IVec S16 32) a x).toNat < S100000.size a := fun v555 k0_hw430 => k0_hw430
def k0_off497 (k0_t41 : Fin k0_t41_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v557 : BitVec 32 := Scalar.addi v461 c208_i32_303
  let v558 : Index := Scalar.indexCast v557
  ![v558.toNat]

def k0_chk431 (v562 : IVec S16 32) : Prop :=
  (∀ a x, ((![v562] : Fin 1 → IVec S16 32) a x).toNat < S100000.size a)
instance k0_chk431.dec : ∀ (v562 : IVec S16 32), Decidable (k0_chk431 v562) := fun v562 => decidable_of_iff' _ (Iff.of_eq (k0_chk431.eq_1 v562))
theorem k0_idx431_inb : ∀ (v562 : IVec S16 32) (k0_hw431 : k0_chk431 v562), ∀ a x, ((![v562] : Fin 1 → IVec S16 32) a x).toNat < S100000.size a := fun v562 k0_hw431 => k0_hw431
def k0_off498 (k0_t41 : Fin k0_t41_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let v564 : BitVec 32 := Scalar.addi v461 c224_i32_304
  let v565 : Index := Scalar.indexCast v564
  ![v565.toNat]

def k0_chk432 (v569 : IVec S16 32) : Prop :=
  (∀ a x, ((![v569] : Fin 1 → IVec S16 32) a x).toNat < S100000.size a)
instance k0_chk432.dec : ∀ (v569 : IVec S16 32), Decidable (k0_chk432 v569) := fun v569 => decidable_of_iff' _ (Iff.of_eq (k0_chk432.eq_1 v569))
theorem k0_idx432_inb : ∀ (v569 : IVec S16 32) (k0_hw432 : k0_chk432 v569), ∀ a x, ((![v569] : Fin 1 → IVec S16 32) a x).toNat < S100000.size a := fun v569 k0_hw432 => k0_hw432
def k0_off499 (k0_t41 : Fin k0_t41_loop.trips) : Fin 1 → Nat :=
  let c0_i32_275 : BitVec 32 := 0#32
  let c1_i32_277 : BitVec 32 := 1#32
  let arg36 : BitVec 32 := Scf.iv c0_i32_275 c1_i32_277 k0_t41
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off500 (i : grid0.Coords) (k0_t40 : Fin (k0_t40_loop i).trips) : Fin 2 → Nat :=
  let c216_i32_279 : BitVec 32 := 216#32
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c36_i32_78 : BitVec 32 := 36#32
  let c0_i32_77 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_76 : BitVec 32 := 216#32
  let v138 : BitVec 32 := Scalar.subi v38 c216_i32_76
  let v139 : BitVec 32 := Scalar.maxsi c0_i32_77 v138
  let v140 : BitVec 32 := Scalar.minsi c36_i32_78 v139
  let v144 : BitVec 32 := Scalar.subi v140 v137
  let c1_i32_81 : BitVec 32 := 1#32
  let v146 : BitVec 32 := Scalar.divsi v144 c1_i32_81
  let v147 : BitVec 32 := Scalar.muli v146 c1_i32_81
  let v148 : BitVec 32 := Scalar.addi v137 v147
  let c1_i32_83 : BitVec 32 := 1#32
  let arg34 : BitVec 32 := Scf.iv v148 c1_i32_83 k0_t40
  let v457 : BitVec 32 := Scalar.addi c216_i32_279 arg34
  let c0_i32_287_r54 : BitVec 32 := 0#32
  ![v457.toNat, 0]
@[reducible] def k0_t42_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off501 (k0_t42 : Fin k0_t42_loop.trips) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk433 (v464 : IVec S16 32) : Prop :=
  (∀ a x, ((![v464] : Fin 1 → IVec S16 32) a x).toNat < S100000.size a)
instance k0_chk433.dec : ∀ (v464 : IVec S16 32), Decidable (k0_chk433 v464) := fun v464 => decidable_of_iff' _ (Iff.of_eq (k0_chk433.eq_1 v464))
theorem k0_idx433_inb : ∀ (v464 : IVec S16 32) (k0_hw433 : k0_chk433 v464), ∀ a x, ((![v464] : Fin 1 → IVec S16 32) a x).toNat < S100000.size a := fun v464 k0_hw433 => k0_hw433
def k0_off502 (k0_t42 : Fin k0_t42_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v466 : BitVec 32 := Scalar.addi v461 c0_i32_288
  let v467 : Index := Scalar.indexCast v466
  ![v467.toNat]

def k0_chk434 (v471 : IVec S16 32) : Prop :=
  (∀ a x, ((![v471] : Fin 1 → IVec S16 32) a x).toNat < S100000.size a)
instance k0_chk434.dec : ∀ (v471 : IVec S16 32), Decidable (k0_chk434 v471) := fun v471 => decidable_of_iff' _ (Iff.of_eq (k0_chk434.eq_1 v471))
theorem k0_idx434_inb : ∀ (v471 : IVec S16 32) (k0_hw434 : k0_chk434 v471), ∀ a x, ((![v471] : Fin 1 → IVec S16 32) a x).toNat < S100000.size a := fun v471 k0_hw434 => k0_hw434
def k0_off503 (k0_t42 : Fin k0_t42_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v473 : BitVec 32 := Scalar.addi v461 c16_i32_289
  let v474 : Index := Scalar.indexCast v473
  ![v474.toNat]

def k0_chk435 (v478 : IVec S16 32) : Prop :=
  (∀ a x, ((![v478] : Fin 1 → IVec S16 32) a x).toNat < S100000.size a)
instance k0_chk435.dec : ∀ (v478 : IVec S16 32), Decidable (k0_chk435 v478) := fun v478 => decidable_of_iff' _ (Iff.of_eq (k0_chk435.eq_1 v478))
theorem k0_idx435_inb : ∀ (v478 : IVec S16 32) (k0_hw435 : k0_chk435 v478), ∀ a x, ((![v478] : Fin 1 → IVec S16 32) a x).toNat < S100000.size a := fun v478 k0_hw435 => k0_hw435
def k0_off504 (k0_t42 : Fin k0_t42_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v480 : BitVec 32 := Scalar.addi v461 c32_i32_291
  let v481 : Index := Scalar.indexCast v480
  ![v481.toNat]

def k0_chk436 (v485 : IVec S16 32) : Prop :=
  (∀ a x, ((![v485] : Fin 1 → IVec S16 32) a x).toNat < S100000.size a)
instance k0_chk436.dec : ∀ (v485 : IVec S16 32), Decidable (k0_chk436 v485) := fun v485 => decidable_of_iff' _ (Iff.of_eq (k0_chk436.eq_1 v485))
theorem k0_idx436_inb : ∀ (v485 : IVec S16 32) (k0_hw436 : k0_chk436 v485), ∀ a x, ((![v485] : Fin 1 → IVec S16 32) a x).toNat < S100000.size a := fun v485 k0_hw436 => k0_hw436
def k0_off505 (k0_t42 : Fin k0_t42_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v487 : BitVec 32 := Scalar.addi v461 c48_i32_292
  let v488 : Index := Scalar.indexCast v487
  ![v488.toNat]

def k0_chk437 (v492 : IVec S16 32) : Prop :=
  (∀ a x, ((![v492] : Fin 1 → IVec S16 32) a x).toNat < S100000.size a)
instance k0_chk437.dec : ∀ (v492 : IVec S16 32), Decidable (k0_chk437 v492) := fun v492 => decidable_of_iff' _ (Iff.of_eq (k0_chk437.eq_1 v492))
theorem k0_idx437_inb : ∀ (v492 : IVec S16 32) (k0_hw437 : k0_chk437 v492), ∀ a x, ((![v492] : Fin 1 → IVec S16 32) a x).toNat < S100000.size a := fun v492 k0_hw437 => k0_hw437
def k0_off506 (k0_t42 : Fin k0_t42_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v494 : BitVec 32 := Scalar.addi v461 c64_i32_293
  let v495 : Index := Scalar.indexCast v494
  ![v495.toNat]

def k0_chk438 (v499 : IVec S16 32) : Prop :=
  (∀ a x, ((![v499] : Fin 1 → IVec S16 32) a x).toNat < S100000.size a)
instance k0_chk438.dec : ∀ (v499 : IVec S16 32), Decidable (k0_chk438 v499) := fun v499 => decidable_of_iff' _ (Iff.of_eq (k0_chk438.eq_1 v499))
theorem k0_idx438_inb : ∀ (v499 : IVec S16 32) (k0_hw438 : k0_chk438 v499), ∀ a x, ((![v499] : Fin 1 → IVec S16 32) a x).toNat < S100000.size a := fun v499 k0_hw438 => k0_hw438
def k0_off507 (k0_t42 : Fin k0_t42_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v501 : BitVec 32 := Scalar.addi v461 c80_i32_294
  let v502 : Index := Scalar.indexCast v501
  ![v502.toNat]

def k0_chk439 (v506 : IVec S16 32) : Prop :=
  (∀ a x, ((![v506] : Fin 1 → IVec S16 32) a x).toNat < S100000.size a)
instance k0_chk439.dec : ∀ (v506 : IVec S16 32), Decidable (k0_chk439 v506) := fun v506 => decidable_of_iff' _ (Iff.of_eq (k0_chk439.eq_1 v506))
theorem k0_idx439_inb : ∀ (v506 : IVec S16 32) (k0_hw439 : k0_chk439 v506), ∀ a x, ((![v506] : Fin 1 → IVec S16 32) a x).toNat < S100000.size a := fun v506 k0_hw439 => k0_hw439
def k0_off508 (k0_t42 : Fin k0_t42_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v508 : BitVec 32 := Scalar.addi v461 c96_i32_295
  let v509 : Index := Scalar.indexCast v508
  ![v509.toNat]

def k0_chk440 (v513 : IVec S16 32) : Prop :=
  (∀ a x, ((![v513] : Fin 1 → IVec S16 32) a x).toNat < S100000.size a)
instance k0_chk440.dec : ∀ (v513 : IVec S16 32), Decidable (k0_chk440 v513) := fun v513 => decidable_of_iff' _ (Iff.of_eq (k0_chk440.eq_1 v513))
theorem k0_idx440_inb : ∀ (v513 : IVec S16 32) (k0_hw440 : k0_chk440 v513), ∀ a x, ((![v513] : Fin 1 → IVec S16 32) a x).toNat < S100000.size a := fun v513 k0_hw440 => k0_hw440
def k0_off509 (k0_t42 : Fin k0_t42_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v515 : BitVec 32 := Scalar.addi v461 c112_i32_296
  let v516 : Index := Scalar.indexCast v515
  ![v516.toNat]

def k0_chk441 (v520 : IVec S16 32) : Prop :=
  (∀ a x, ((![v520] : Fin 1 → IVec S16 32) a x).toNat < S100000.size a)
instance k0_chk441.dec : ∀ (v520 : IVec S16 32), Decidable (k0_chk441 v520) := fun v520 => decidable_of_iff' _ (Iff.of_eq (k0_chk441.eq_1 v520))
theorem k0_idx441_inb : ∀ (v520 : IVec S16 32) (k0_hw441 : k0_chk441 v520), ∀ a x, ((![v520] : Fin 1 → IVec S16 32) a x).toNat < S100000.size a := fun v520 k0_hw441 => k0_hw441
def k0_off510 (k0_t42 : Fin k0_t42_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v522 : BitVec 32 := Scalar.addi v461 c128_i32_297
  let v523 : Index := Scalar.indexCast v522
  ![v523.toNat]

def k0_chk442 (v527 : IVec S16 32) : Prop :=
  (∀ a x, ((![v527] : Fin 1 → IVec S16 32) a x).toNat < S100000.size a)
instance k0_chk442.dec : ∀ (v527 : IVec S16 32), Decidable (k0_chk442 v527) := fun v527 => decidable_of_iff' _ (Iff.of_eq (k0_chk442.eq_1 v527))
theorem k0_idx442_inb : ∀ (v527 : IVec S16 32) (k0_hw442 : k0_chk442 v527), ∀ a x, ((![v527] : Fin 1 → IVec S16 32) a x).toNat < S100000.size a := fun v527 k0_hw442 => k0_hw442
def k0_off511 (k0_t42 : Fin k0_t42_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v529 : BitVec 32 := Scalar.addi v461 c144_i32_299
  let v530 : Index := Scalar.indexCast v529
  ![v530.toNat]

def k0_chk443 (v534 : IVec S16 32) : Prop :=
  (∀ a x, ((![v534] : Fin 1 → IVec S16 32) a x).toNat < S100000.size a)
instance k0_chk443.dec : ∀ (v534 : IVec S16 32), Decidable (k0_chk443 v534) := fun v534 => decidable_of_iff' _ (Iff.of_eq (k0_chk443.eq_1 v534))
theorem k0_idx443_inb : ∀ (v534 : IVec S16 32) (k0_hw443 : k0_chk443 v534), ∀ a x, ((![v534] : Fin 1 → IVec S16 32) a x).toNat < S100000.size a := fun v534 k0_hw443 => k0_hw443
def k0_off512 (k0_t42 : Fin k0_t42_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v536 : BitVec 32 := Scalar.addi v461 c160_i32_300
  let v537 : Index := Scalar.indexCast v536
  ![v537.toNat]

def k0_chk444 (v541 : IVec S16 32) : Prop :=
  (∀ a x, ((![v541] : Fin 1 → IVec S16 32) a x).toNat < S100000.size a)
instance k0_chk444.dec : ∀ (v541 : IVec S16 32), Decidable (k0_chk444 v541) := fun v541 => decidable_of_iff' _ (Iff.of_eq (k0_chk444.eq_1 v541))
theorem k0_idx444_inb : ∀ (v541 : IVec S16 32) (k0_hw444 : k0_chk444 v541), ∀ a x, ((![v541] : Fin 1 → IVec S16 32) a x).toNat < S100000.size a := fun v541 k0_hw444 => k0_hw444
def k0_off513 (k0_t42 : Fin k0_t42_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v543 : BitVec 32 := Scalar.addi v461 c176_i32_301
  let v544 : Index := Scalar.indexCast v543
  ![v544.toNat]

def k0_chk445 (v548 : IVec S16 32) : Prop :=
  (∀ a x, ((![v548] : Fin 1 → IVec S16 32) a x).toNat < S100000.size a)
instance k0_chk445.dec : ∀ (v548 : IVec S16 32), Decidable (k0_chk445 v548) := fun v548 => decidable_of_iff' _ (Iff.of_eq (k0_chk445.eq_1 v548))
theorem k0_idx445_inb : ∀ (v548 : IVec S16 32) (k0_hw445 : k0_chk445 v548), ∀ a x, ((![v548] : Fin 1 → IVec S16 32) a x).toNat < S100000.size a := fun v548 k0_hw445 => k0_hw445
def k0_off514 (k0_t42 : Fin k0_t42_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v550 : BitVec 32 := Scalar.addi v461 c192_i32_302
  let v551 : Index := Scalar.indexCast v550
  ![v551.toNat]

def k0_chk446 (v555 : IVec S16 32) : Prop :=
  (∀ a x, ((![v555] : Fin 1 → IVec S16 32) a x).toNat < S100000.size a)
instance k0_chk446.dec : ∀ (v555 : IVec S16 32), Decidable (k0_chk446 v555) := fun v555 => decidable_of_iff' _ (Iff.of_eq (k0_chk446.eq_1 v555))
theorem k0_idx446_inb : ∀ (v555 : IVec S16 32) (k0_hw446 : k0_chk446 v555), ∀ a x, ((![v555] : Fin 1 → IVec S16 32) a x).toNat < S100000.size a := fun v555 k0_hw446 => k0_hw446
def k0_off515 (k0_t42 : Fin k0_t42_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v557 : BitVec 32 := Scalar.addi v461 c208_i32_303
  let v558 : Index := Scalar.indexCast v557
  ![v558.toNat]

def k0_chk447 (v562 : IVec S16 32) : Prop :=
  (∀ a x, ((![v562] : Fin 1 → IVec S16 32) a x).toNat < S100000.size a)
instance k0_chk447.dec : ∀ (v562 : IVec S16 32), Decidable (k0_chk447 v562) := fun v562 => decidable_of_iff' _ (Iff.of_eq (k0_chk447.eq_1 v562))
theorem k0_idx447_inb : ∀ (v562 : IVec S16 32) (k0_hw447 : k0_chk447 v562), ∀ a x, ((![v562] : Fin 1 → IVec S16 32) a x).toNat < S100000.size a := fun v562 k0_hw447 => k0_hw447
def k0_off516 (k0_t42 : Fin k0_t42_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let v564 : BitVec 32 := Scalar.addi v461 c224_i32_304
  let v565 : Index := Scalar.indexCast v564
  ![v565.toNat]

def k0_chk448 (v569 : IVec S16 32) : Prop :=
  (∀ a x, ((![v569] : Fin 1 → IVec S16 32) a x).toNat < S100000.size a)
instance k0_chk448.dec : ∀ (v569 : IVec S16 32), Decidable (k0_chk448 v569) := fun v569 => decidable_of_iff' _ (Iff.of_eq (k0_chk448.eq_1 v569))
theorem k0_idx448_inb : ∀ (v569 : IVec S16 32) (k0_hw448 : k0_chk448 v569), ∀ a x, ((![v569] : Fin 1 → IVec S16 32) a x).toNat < S100000.size a := fun v569 k0_hw448 => k0_hw448
def k0_off517 (k0_t42 : Fin k0_t42_loop.trips) : Fin 1 → Nat :=
  let c0_i32_281 : BitVec 32 := 0#32
  let c1_i32_283 : BitVec 32 := 1#32
  let arg36 : BitVec 32 := Scf.iv c0_i32_281 c1_i32_283 k0_t42
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off518 (i : grid0.Coords) (k0_t40 : Fin (k0_t40_loop i).trips) : Fin 2 → Nat :=
  let c216_i32_285 : BitVec 32 := 216#32
  let c36_i32_75 : BitVec 32 := 36#32
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c216_i32 : BitVec 32 := 216#32
  let v135 : BitVec 32 := Scalar.subi v19 c216_i32
  let v136 : BitVec 32 := Scalar.maxsi c0_i32_74 v135
  let v137 : BitVec 32 := Scalar.minsi c36_i32_75 v136
  let c36_i32_78 : BitVec 32 := 36#32
  let c0_i32_77 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c216_i32_76 : BitVec 32 := 216#32
  let v138 : BitVec 32 := Scalar.subi v38 c216_i32_76
  let v139 : BitVec 32 := Scalar.maxsi c0_i32_77 v138
  let v140 : BitVec 32 := Scalar.minsi c36_i32_78 v139
  let v144 : BitVec 32 := Scalar.subi v140 v137
  let c1_i32_81 : BitVec 32 := 1#32
  let v146 : BitVec 32 := Scalar.divsi v144 c1_i32_81
  let v147 : BitVec 32 := Scalar.muli v146 c1_i32_81
  let v148 : BitVec 32 := Scalar.addi v137 v147
  let c1_i32_83 : BitVec 32 := 1#32
  let arg34 : BitVec 32 := Scf.iv v148 c1_i32_83 k0_t40
  let v460 : BitVec 32 := Scalar.addi c216_i32_285 arg34
  let c8192_i32_r55 : BitVec 32 := 8192#32
  ![v460.toNat, 8192]
@[reducible] def k0_t43_loop (i : grid0.Coords) : Scf.Loop 32 :=
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c36_i32_88 : BitVec 32 := 36#32
  let c0_i32_87 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c252_i32_86 : BitVec 32 := 252#32
  let v154 : BitVec 32 := Scalar.subi v38 c252_i32_86
  let v155 : BitVec 32 := Scalar.maxsi c0_i32_87 v154
  let v156 : BitVec 32 := Scalar.minsi c36_i32_88 v155
  let v160 : BitVec 32 := Scalar.subi v156 v153
  let c1_i32_91 : BitVec 32 := 1#32
  let v162 : BitVec 32 := Scalar.divsi v160 c1_i32_91
  let v163 : BitVec 32 := Scalar.muli v162 c1_i32_91
  let v164 : BitVec 32 := Scalar.addi v153 v163
  let c1_i32_92 : BitVec 32 := 1#32
  ⟨v153, v164, c1_i32_92⟩
def k0_off519 (i : grid0.Coords) (k0_t43 : Fin (k0_t43_loop i).trips) : Fin 2 → Nat :=
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c1_i32_92 : BitVec 32 := 1#32
  let arg34 : BitVec 32 := Scf.iv v153 c1_i32_92 k0_t43
  let c0_i32_287_r58 : BitVec 32 := 0#32
  ![arg34.toNat, 0]
@[reducible] def k0_t44_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off520 (k0_t44 : Fin k0_t44_loop.trips) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk449 (v464 : IVec S16 32) : Prop :=
  (∀ a x, ((![v464] : Fin 1 → IVec S16 32) a x).toNat < S100000.size a)
instance k0_chk449.dec : ∀ (v464 : IVec S16 32), Decidable (k0_chk449 v464) := fun v464 => decidable_of_iff' _ (Iff.of_eq (k0_chk449.eq_1 v464))
theorem k0_idx449_inb : ∀ (v464 : IVec S16 32) (k0_hw449 : k0_chk449 v464), ∀ a x, ((![v464] : Fin 1 → IVec S16 32) a x).toNat < S100000.size a := fun v464 k0_hw449 => k0_hw449
def k0_off521 (k0_t44 : Fin k0_t44_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v466 : BitVec 32 := Scalar.addi v461 c0_i32_288
  let v467 : Index := Scalar.indexCast v466
  ![v467.toNat]

def k0_chk450 (v471 : IVec S16 32) : Prop :=
  (∀ a x, ((![v471] : Fin 1 → IVec S16 32) a x).toNat < S100000.size a)
instance k0_chk450.dec : ∀ (v471 : IVec S16 32), Decidable (k0_chk450 v471) := fun v471 => decidable_of_iff' _ (Iff.of_eq (k0_chk450.eq_1 v471))
theorem k0_idx450_inb : ∀ (v471 : IVec S16 32) (k0_hw450 : k0_chk450 v471), ∀ a x, ((![v471] : Fin 1 → IVec S16 32) a x).toNat < S100000.size a := fun v471 k0_hw450 => k0_hw450
def k0_off522 (k0_t44 : Fin k0_t44_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v473 : BitVec 32 := Scalar.addi v461 c16_i32_289
  let v474 : Index := Scalar.indexCast v473
  ![v474.toNat]

def k0_chk451 (v478 : IVec S16 32) : Prop :=
  (∀ a x, ((![v478] : Fin 1 → IVec S16 32) a x).toNat < S100000.size a)
instance k0_chk451.dec : ∀ (v478 : IVec S16 32), Decidable (k0_chk451 v478) := fun v478 => decidable_of_iff' _ (Iff.of_eq (k0_chk451.eq_1 v478))
theorem k0_idx451_inb : ∀ (v478 : IVec S16 32) (k0_hw451 : k0_chk451 v478), ∀ a x, ((![v478] : Fin 1 → IVec S16 32) a x).toNat < S100000.size a := fun v478 k0_hw451 => k0_hw451
def k0_off523 (k0_t44 : Fin k0_t44_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v480 : BitVec 32 := Scalar.addi v461 c32_i32_291
  let v481 : Index := Scalar.indexCast v480
  ![v481.toNat]

def k0_chk452 (v485 : IVec S16 32) : Prop :=
  (∀ a x, ((![v485] : Fin 1 → IVec S16 32) a x).toNat < S100000.size a)
instance k0_chk452.dec : ∀ (v485 : IVec S16 32), Decidable (k0_chk452 v485) := fun v485 => decidable_of_iff' _ (Iff.of_eq (k0_chk452.eq_1 v485))
theorem k0_idx452_inb : ∀ (v485 : IVec S16 32) (k0_hw452 : k0_chk452 v485), ∀ a x, ((![v485] : Fin 1 → IVec S16 32) a x).toNat < S100000.size a := fun v485 k0_hw452 => k0_hw452
def k0_off524 (k0_t44 : Fin k0_t44_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v487 : BitVec 32 := Scalar.addi v461 c48_i32_292
  let v488 : Index := Scalar.indexCast v487
  ![v488.toNat]

def k0_chk453 (v492 : IVec S16 32) : Prop :=
  (∀ a x, ((![v492] : Fin 1 → IVec S16 32) a x).toNat < S100000.size a)
instance k0_chk453.dec : ∀ (v492 : IVec S16 32), Decidable (k0_chk453 v492) := fun v492 => decidable_of_iff' _ (Iff.of_eq (k0_chk453.eq_1 v492))
theorem k0_idx453_inb : ∀ (v492 : IVec S16 32) (k0_hw453 : k0_chk453 v492), ∀ a x, ((![v492] : Fin 1 → IVec S16 32) a x).toNat < S100000.size a := fun v492 k0_hw453 => k0_hw453
def k0_off525 (k0_t44 : Fin k0_t44_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v494 : BitVec 32 := Scalar.addi v461 c64_i32_293
  let v495 : Index := Scalar.indexCast v494
  ![v495.toNat]

def k0_chk454 (v499 : IVec S16 32) : Prop :=
  (∀ a x, ((![v499] : Fin 1 → IVec S16 32) a x).toNat < S100000.size a)
instance k0_chk454.dec : ∀ (v499 : IVec S16 32), Decidable (k0_chk454 v499) := fun v499 => decidable_of_iff' _ (Iff.of_eq (k0_chk454.eq_1 v499))
theorem k0_idx454_inb : ∀ (v499 : IVec S16 32) (k0_hw454 : k0_chk454 v499), ∀ a x, ((![v499] : Fin 1 → IVec S16 32) a x).toNat < S100000.size a := fun v499 k0_hw454 => k0_hw454
def k0_off526 (k0_t44 : Fin k0_t44_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v501 : BitVec 32 := Scalar.addi v461 c80_i32_294
  let v502 : Index := Scalar.indexCast v501
  ![v502.toNat]

def k0_chk455 (v506 : IVec S16 32) : Prop :=
  (∀ a x, ((![v506] : Fin 1 → IVec S16 32) a x).toNat < S100000.size a)
instance k0_chk455.dec : ∀ (v506 : IVec S16 32), Decidable (k0_chk455 v506) := fun v506 => decidable_of_iff' _ (Iff.of_eq (k0_chk455.eq_1 v506))
theorem k0_idx455_inb : ∀ (v506 : IVec S16 32) (k0_hw455 : k0_chk455 v506), ∀ a x, ((![v506] : Fin 1 → IVec S16 32) a x).toNat < S100000.size a := fun v506 k0_hw455 => k0_hw455
def k0_off527 (k0_t44 : Fin k0_t44_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v508 : BitVec 32 := Scalar.addi v461 c96_i32_295
  let v509 : Index := Scalar.indexCast v508
  ![v509.toNat]

def k0_chk456 (v513 : IVec S16 32) : Prop :=
  (∀ a x, ((![v513] : Fin 1 → IVec S16 32) a x).toNat < S100000.size a)
instance k0_chk456.dec : ∀ (v513 : IVec S16 32), Decidable (k0_chk456 v513) := fun v513 => decidable_of_iff' _ (Iff.of_eq (k0_chk456.eq_1 v513))
theorem k0_idx456_inb : ∀ (v513 : IVec S16 32) (k0_hw456 : k0_chk456 v513), ∀ a x, ((![v513] : Fin 1 → IVec S16 32) a x).toNat < S100000.size a := fun v513 k0_hw456 => k0_hw456
def k0_off528 (k0_t44 : Fin k0_t44_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v515 : BitVec 32 := Scalar.addi v461 c112_i32_296
  let v516 : Index := Scalar.indexCast v515
  ![v516.toNat]

def k0_chk457 (v520 : IVec S16 32) : Prop :=
  (∀ a x, ((![v520] : Fin 1 → IVec S16 32) a x).toNat < S100000.size a)
instance k0_chk457.dec : ∀ (v520 : IVec S16 32), Decidable (k0_chk457 v520) := fun v520 => decidable_of_iff' _ (Iff.of_eq (k0_chk457.eq_1 v520))
theorem k0_idx457_inb : ∀ (v520 : IVec S16 32) (k0_hw457 : k0_chk457 v520), ∀ a x, ((![v520] : Fin 1 → IVec S16 32) a x).toNat < S100000.size a := fun v520 k0_hw457 => k0_hw457
def k0_off529 (k0_t44 : Fin k0_t44_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v522 : BitVec 32 := Scalar.addi v461 c128_i32_297
  let v523 : Index := Scalar.indexCast v522
  ![v523.toNat]

def k0_chk458 (v527 : IVec S16 32) : Prop :=
  (∀ a x, ((![v527] : Fin 1 → IVec S16 32) a x).toNat < S100000.size a)
instance k0_chk458.dec : ∀ (v527 : IVec S16 32), Decidable (k0_chk458 v527) := fun v527 => decidable_of_iff' _ (Iff.of_eq (k0_chk458.eq_1 v527))
theorem k0_idx458_inb : ∀ (v527 : IVec S16 32) (k0_hw458 : k0_chk458 v527), ∀ a x, ((![v527] : Fin 1 → IVec S16 32) a x).toNat < S100000.size a := fun v527 k0_hw458 => k0_hw458
def k0_off530 (k0_t44 : Fin k0_t44_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v529 : BitVec 32 := Scalar.addi v461 c144_i32_299
  let v530 : Index := Scalar.indexCast v529
  ![v530.toNat]

def k0_chk459 (v534 : IVec S16 32) : Prop :=
  (∀ a x, ((![v534] : Fin 1 → IVec S16 32) a x).toNat < S100000.size a)
instance k0_chk459.dec : ∀ (v534 : IVec S16 32), Decidable (k0_chk459 v534) := fun v534 => decidable_of_iff' _ (Iff.of_eq (k0_chk459.eq_1 v534))
theorem k0_idx459_inb : ∀ (v534 : IVec S16 32) (k0_hw459 : k0_chk459 v534), ∀ a x, ((![v534] : Fin 1 → IVec S16 32) a x).toNat < S100000.size a := fun v534 k0_hw459 => k0_hw459
def k0_off531 (k0_t44 : Fin k0_t44_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v536 : BitVec 32 := Scalar.addi v461 c160_i32_300
  let v537 : Index := Scalar.indexCast v536
  ![v537.toNat]

def k0_chk460 (v541 : IVec S16 32) : Prop :=
  (∀ a x, ((![v541] : Fin 1 → IVec S16 32) a x).toNat < S100000.size a)
instance k0_chk460.dec : ∀ (v541 : IVec S16 32), Decidable (k0_chk460 v541) := fun v541 => decidable_of_iff' _ (Iff.of_eq (k0_chk460.eq_1 v541))
theorem k0_idx460_inb : ∀ (v541 : IVec S16 32) (k0_hw460 : k0_chk460 v541), ∀ a x, ((![v541] : Fin 1 → IVec S16 32) a x).toNat < S100000.size a := fun v541 k0_hw460 => k0_hw460
def k0_off532 (k0_t44 : Fin k0_t44_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v543 : BitVec 32 := Scalar.addi v461 c176_i32_301
  let v544 : Index := Scalar.indexCast v543
  ![v544.toNat]

def k0_chk461 (v548 : IVec S16 32) : Prop :=
  (∀ a x, ((![v548] : Fin 1 → IVec S16 32) a x).toNat < S100000.size a)
instance k0_chk461.dec : ∀ (v548 : IVec S16 32), Decidable (k0_chk461 v548) := fun v548 => decidable_of_iff' _ (Iff.of_eq (k0_chk461.eq_1 v548))
theorem k0_idx461_inb : ∀ (v548 : IVec S16 32) (k0_hw461 : k0_chk461 v548), ∀ a x, ((![v548] : Fin 1 → IVec S16 32) a x).toNat < S100000.size a := fun v548 k0_hw461 => k0_hw461
def k0_off533 (k0_t44 : Fin k0_t44_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v550 : BitVec 32 := Scalar.addi v461 c192_i32_302
  let v551 : Index := Scalar.indexCast v550
  ![v551.toNat]

def k0_chk462 (v555 : IVec S16 32) : Prop :=
  (∀ a x, ((![v555] : Fin 1 → IVec S16 32) a x).toNat < S100000.size a)
instance k0_chk462.dec : ∀ (v555 : IVec S16 32), Decidable (k0_chk462 v555) := fun v555 => decidable_of_iff' _ (Iff.of_eq (k0_chk462.eq_1 v555))
theorem k0_idx462_inb : ∀ (v555 : IVec S16 32) (k0_hw462 : k0_chk462 v555), ∀ a x, ((![v555] : Fin 1 → IVec S16 32) a x).toNat < S100000.size a := fun v555 k0_hw462 => k0_hw462
def k0_off534 (k0_t44 : Fin k0_t44_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v557 : BitVec 32 := Scalar.addi v461 c208_i32_303
  let v558 : Index := Scalar.indexCast v557
  ![v558.toNat]

def k0_chk463 (v562 : IVec S16 32) : Prop :=
  (∀ a x, ((![v562] : Fin 1 → IVec S16 32) a x).toNat < S100000.size a)
instance k0_chk463.dec : ∀ (v562 : IVec S16 32), Decidable (k0_chk463 v562) := fun v562 => decidable_of_iff' _ (Iff.of_eq (k0_chk463.eq_1 v562))
theorem k0_idx463_inb : ∀ (v562 : IVec S16 32) (k0_hw463 : k0_chk463 v562), ∀ a x, ((![v562] : Fin 1 → IVec S16 32) a x).toNat < S100000.size a := fun v562 k0_hw463 => k0_hw463
def k0_off535 (k0_t44 : Fin k0_t44_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let v564 : BitVec 32 := Scalar.addi v461 c224_i32_304
  let v565 : Index := Scalar.indexCast v564
  ![v565.toNat]

def k0_chk464 (v569 : IVec S16 32) : Prop :=
  (∀ a x, ((![v569] : Fin 1 → IVec S16 32) a x).toNat < S100000.size a)
instance k0_chk464.dec : ∀ (v569 : IVec S16 32), Decidable (k0_chk464 v569) := fun v569 => decidable_of_iff' _ (Iff.of_eq (k0_chk464.eq_1 v569))
theorem k0_idx464_inb : ∀ (v569 : IVec S16 32) (k0_hw464 : k0_chk464 v569), ∀ a x, ((![v569] : Fin 1 → IVec S16 32) a x).toNat < S100000.size a := fun v569 k0_hw464 => k0_hw464
def k0_off536 (k0_t44 : Fin k0_t44_loop.trips) : Fin 1 → Nat :=
  let c0_i32_275 : BitVec 32 := 0#32
  let c1_i32_277 : BitVec 32 := 1#32
  let arg36 : BitVec 32 := Scf.iv c0_i32_275 c1_i32_277 k0_t44
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off537 (i : grid0.Coords) (k0_t43 : Fin (k0_t43_loop i).trips) : Fin 2 → Nat :=
  let c252_i32_279 : BitVec 32 := 252#32
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c1_i32_92 : BitVec 32 := 1#32
  let arg34 : BitVec 32 := Scf.iv v153 c1_i32_92 k0_t43
  let v457 : BitVec 32 := Scalar.addi c252_i32_279 arg34
  let c0_i32_287_r59 : BitVec 32 := 0#32
  ![v457.toNat, 0]
@[reducible] def k0_t45_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off538 (k0_t45 : Fin k0_t45_loop.trips) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk465 (v464 : IVec S16 32) : Prop :=
  (∀ a x, ((![v464] : Fin 1 → IVec S16 32) a x).toNat < S100000.size a)
instance k0_chk465.dec : ∀ (v464 : IVec S16 32), Decidable (k0_chk465 v464) := fun v464 => decidable_of_iff' _ (Iff.of_eq (k0_chk465.eq_1 v464))
theorem k0_idx465_inb : ∀ (v464 : IVec S16 32) (k0_hw465 : k0_chk465 v464), ∀ a x, ((![v464] : Fin 1 → IVec S16 32) a x).toNat < S100000.size a := fun v464 k0_hw465 => k0_hw465
def k0_off539 (k0_t45 : Fin k0_t45_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v466 : BitVec 32 := Scalar.addi v461 c0_i32_288
  let v467 : Index := Scalar.indexCast v466
  ![v467.toNat]

def k0_chk466 (v471 : IVec S16 32) : Prop :=
  (∀ a x, ((![v471] : Fin 1 → IVec S16 32) a x).toNat < S100000.size a)
instance k0_chk466.dec : ∀ (v471 : IVec S16 32), Decidable (k0_chk466 v471) := fun v471 => decidable_of_iff' _ (Iff.of_eq (k0_chk466.eq_1 v471))
theorem k0_idx466_inb : ∀ (v471 : IVec S16 32) (k0_hw466 : k0_chk466 v471), ∀ a x, ((![v471] : Fin 1 → IVec S16 32) a x).toNat < S100000.size a := fun v471 k0_hw466 => k0_hw466
def k0_off540 (k0_t45 : Fin k0_t45_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v473 : BitVec 32 := Scalar.addi v461 c16_i32_289
  let v474 : Index := Scalar.indexCast v473
  ![v474.toNat]

def k0_chk467 (v478 : IVec S16 32) : Prop :=
  (∀ a x, ((![v478] : Fin 1 → IVec S16 32) a x).toNat < S100000.size a)
instance k0_chk467.dec : ∀ (v478 : IVec S16 32), Decidable (k0_chk467 v478) := fun v478 => decidable_of_iff' _ (Iff.of_eq (k0_chk467.eq_1 v478))
theorem k0_idx467_inb : ∀ (v478 : IVec S16 32) (k0_hw467 : k0_chk467 v478), ∀ a x, ((![v478] : Fin 1 → IVec S16 32) a x).toNat < S100000.size a := fun v478 k0_hw467 => k0_hw467
def k0_off541 (k0_t45 : Fin k0_t45_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v480 : BitVec 32 := Scalar.addi v461 c32_i32_291
  let v481 : Index := Scalar.indexCast v480
  ![v481.toNat]

def k0_chk468 (v485 : IVec S16 32) : Prop :=
  (∀ a x, ((![v485] : Fin 1 → IVec S16 32) a x).toNat < S100000.size a)
instance k0_chk468.dec : ∀ (v485 : IVec S16 32), Decidable (k0_chk468 v485) := fun v485 => decidable_of_iff' _ (Iff.of_eq (k0_chk468.eq_1 v485))
theorem k0_idx468_inb : ∀ (v485 : IVec S16 32) (k0_hw468 : k0_chk468 v485), ∀ a x, ((![v485] : Fin 1 → IVec S16 32) a x).toNat < S100000.size a := fun v485 k0_hw468 => k0_hw468
def k0_off542 (k0_t45 : Fin k0_t45_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v487 : BitVec 32 := Scalar.addi v461 c48_i32_292
  let v488 : Index := Scalar.indexCast v487
  ![v488.toNat]

def k0_chk469 (v492 : IVec S16 32) : Prop :=
  (∀ a x, ((![v492] : Fin 1 → IVec S16 32) a x).toNat < S100000.size a)
instance k0_chk469.dec : ∀ (v492 : IVec S16 32), Decidable (k0_chk469 v492) := fun v492 => decidable_of_iff' _ (Iff.of_eq (k0_chk469.eq_1 v492))
theorem k0_idx469_inb : ∀ (v492 : IVec S16 32) (k0_hw469 : k0_chk469 v492), ∀ a x, ((![v492] : Fin 1 → IVec S16 32) a x).toNat < S100000.size a := fun v492 k0_hw469 => k0_hw469
def k0_off543 (k0_t45 : Fin k0_t45_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v494 : BitVec 32 := Scalar.addi v461 c64_i32_293
  let v495 : Index := Scalar.indexCast v494
  ![v495.toNat]

def k0_chk470 (v499 : IVec S16 32) : Prop :=
  (∀ a x, ((![v499] : Fin 1 → IVec S16 32) a x).toNat < S100000.size a)
instance k0_chk470.dec : ∀ (v499 : IVec S16 32), Decidable (k0_chk470 v499) := fun v499 => decidable_of_iff' _ (Iff.of_eq (k0_chk470.eq_1 v499))
theorem k0_idx470_inb : ∀ (v499 : IVec S16 32) (k0_hw470 : k0_chk470 v499), ∀ a x, ((![v499] : Fin 1 → IVec S16 32) a x).toNat < S100000.size a := fun v499 k0_hw470 => k0_hw470
def k0_off544 (k0_t45 : Fin k0_t45_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v501 : BitVec 32 := Scalar.addi v461 c80_i32_294
  let v502 : Index := Scalar.indexCast v501
  ![v502.toNat]

def k0_chk471 (v506 : IVec S16 32) : Prop :=
  (∀ a x, ((![v506] : Fin 1 → IVec S16 32) a x).toNat < S100000.size a)
instance k0_chk471.dec : ∀ (v506 : IVec S16 32), Decidable (k0_chk471 v506) := fun v506 => decidable_of_iff' _ (Iff.of_eq (k0_chk471.eq_1 v506))
theorem k0_idx471_inb : ∀ (v506 : IVec S16 32) (k0_hw471 : k0_chk471 v506), ∀ a x, ((![v506] : Fin 1 → IVec S16 32) a x).toNat < S100000.size a := fun v506 k0_hw471 => k0_hw471
def k0_off545 (k0_t45 : Fin k0_t45_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v508 : BitVec 32 := Scalar.addi v461 c96_i32_295
  let v509 : Index := Scalar.indexCast v508
  ![v509.toNat]

def k0_chk472 (v513 : IVec S16 32) : Prop :=
  (∀ a x, ((![v513] : Fin 1 → IVec S16 32) a x).toNat < S100000.size a)
instance k0_chk472.dec : ∀ (v513 : IVec S16 32), Decidable (k0_chk472 v513) := fun v513 => decidable_of_iff' _ (Iff.of_eq (k0_chk472.eq_1 v513))
theorem k0_idx472_inb : ∀ (v513 : IVec S16 32) (k0_hw472 : k0_chk472 v513), ∀ a x, ((![v513] : Fin 1 → IVec S16 32) a x).toNat < S100000.size a := fun v513 k0_hw472 => k0_hw472
def k0_off546 (k0_t45 : Fin k0_t45_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v515 : BitVec 32 := Scalar.addi v461 c112_i32_296
  let v516 : Index := Scalar.indexCast v515
  ![v516.toNat]

def k0_chk473 (v520 : IVec S16 32) : Prop :=
  (∀ a x, ((![v520] : Fin 1 → IVec S16 32) a x).toNat < S100000.size a)
instance k0_chk473.dec : ∀ (v520 : IVec S16 32), Decidable (k0_chk473 v520) := fun v520 => decidable_of_iff' _ (Iff.of_eq (k0_chk473.eq_1 v520))
theorem k0_idx473_inb : ∀ (v520 : IVec S16 32) (k0_hw473 : k0_chk473 v520), ∀ a x, ((![v520] : Fin 1 → IVec S16 32) a x).toNat < S100000.size a := fun v520 k0_hw473 => k0_hw473
def k0_off547 (k0_t45 : Fin k0_t45_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v522 : BitVec 32 := Scalar.addi v461 c128_i32_297
  let v523 : Index := Scalar.indexCast v522
  ![v523.toNat]

def k0_chk474 (v527 : IVec S16 32) : Prop :=
  (∀ a x, ((![v527] : Fin 1 → IVec S16 32) a x).toNat < S100000.size a)
instance k0_chk474.dec : ∀ (v527 : IVec S16 32), Decidable (k0_chk474 v527) := fun v527 => decidable_of_iff' _ (Iff.of_eq (k0_chk474.eq_1 v527))
theorem k0_idx474_inb : ∀ (v527 : IVec S16 32) (k0_hw474 : k0_chk474 v527), ∀ a x, ((![v527] : Fin 1 → IVec S16 32) a x).toNat < S100000.size a := fun v527 k0_hw474 => k0_hw474
def k0_off548 (k0_t45 : Fin k0_t45_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v529 : BitVec 32 := Scalar.addi v461 c144_i32_299
  let v530 : Index := Scalar.indexCast v529
  ![v530.toNat]

def k0_chk475 (v534 : IVec S16 32) : Prop :=
  (∀ a x, ((![v534] : Fin 1 → IVec S16 32) a x).toNat < S100000.size a)
instance k0_chk475.dec : ∀ (v534 : IVec S16 32), Decidable (k0_chk475 v534) := fun v534 => decidable_of_iff' _ (Iff.of_eq (k0_chk475.eq_1 v534))
theorem k0_idx475_inb : ∀ (v534 : IVec S16 32) (k0_hw475 : k0_chk475 v534), ∀ a x, ((![v534] : Fin 1 → IVec S16 32) a x).toNat < S100000.size a := fun v534 k0_hw475 => k0_hw475
def k0_off549 (k0_t45 : Fin k0_t45_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v536 : BitVec 32 := Scalar.addi v461 c160_i32_300
  let v537 : Index := Scalar.indexCast v536
  ![v537.toNat]

def k0_chk476 (v541 : IVec S16 32) : Prop :=
  (∀ a x, ((![v541] : Fin 1 → IVec S16 32) a x).toNat < S100000.size a)
instance k0_chk476.dec : ∀ (v541 : IVec S16 32), Decidable (k0_chk476 v541) := fun v541 => decidable_of_iff' _ (Iff.of_eq (k0_chk476.eq_1 v541))
theorem k0_idx476_inb : ∀ (v541 : IVec S16 32) (k0_hw476 : k0_chk476 v541), ∀ a x, ((![v541] : Fin 1 → IVec S16 32) a x).toNat < S100000.size a := fun v541 k0_hw476 => k0_hw476
def k0_off550 (k0_t45 : Fin k0_t45_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v543 : BitVec 32 := Scalar.addi v461 c176_i32_301
  let v544 : Index := Scalar.indexCast v543
  ![v544.toNat]

def k0_chk477 (v548 : IVec S16 32) : Prop :=
  (∀ a x, ((![v548] : Fin 1 → IVec S16 32) a x).toNat < S100000.size a)
instance k0_chk477.dec : ∀ (v548 : IVec S16 32), Decidable (k0_chk477 v548) := fun v548 => decidable_of_iff' _ (Iff.of_eq (k0_chk477.eq_1 v548))
theorem k0_idx477_inb : ∀ (v548 : IVec S16 32) (k0_hw477 : k0_chk477 v548), ∀ a x, ((![v548] : Fin 1 → IVec S16 32) a x).toNat < S100000.size a := fun v548 k0_hw477 => k0_hw477
def k0_off551 (k0_t45 : Fin k0_t45_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v550 : BitVec 32 := Scalar.addi v461 c192_i32_302
  let v551 : Index := Scalar.indexCast v550
  ![v551.toNat]

def k0_chk478 (v555 : IVec S16 32) : Prop :=
  (∀ a x, ((![v555] : Fin 1 → IVec S16 32) a x).toNat < S100000.size a)
instance k0_chk478.dec : ∀ (v555 : IVec S16 32), Decidable (k0_chk478 v555) := fun v555 => decidable_of_iff' _ (Iff.of_eq (k0_chk478.eq_1 v555))
theorem k0_idx478_inb : ∀ (v555 : IVec S16 32) (k0_hw478 : k0_chk478 v555), ∀ a x, ((![v555] : Fin 1 → IVec S16 32) a x).toNat < S100000.size a := fun v555 k0_hw478 => k0_hw478
def k0_off552 (k0_t45 : Fin k0_t45_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v557 : BitVec 32 := Scalar.addi v461 c208_i32_303
  let v558 : Index := Scalar.indexCast v557
  ![v558.toNat]

def k0_chk479 (v562 : IVec S16 32) : Prop :=
  (∀ a x, ((![v562] : Fin 1 → IVec S16 32) a x).toNat < S100000.size a)
instance k0_chk479.dec : ∀ (v562 : IVec S16 32), Decidable (k0_chk479 v562) := fun v562 => decidable_of_iff' _ (Iff.of_eq (k0_chk479.eq_1 v562))
theorem k0_idx479_inb : ∀ (v562 : IVec S16 32) (k0_hw479 : k0_chk479 v562), ∀ a x, ((![v562] : Fin 1 → IVec S16 32) a x).toNat < S100000.size a := fun v562 k0_hw479 => k0_hw479
def k0_off553 (k0_t45 : Fin k0_t45_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let v564 : BitVec 32 := Scalar.addi v461 c224_i32_304
  let v565 : Index := Scalar.indexCast v564
  ![v565.toNat]

def k0_chk480 (v569 : IVec S16 32) : Prop :=
  (∀ a x, ((![v569] : Fin 1 → IVec S16 32) a x).toNat < S100000.size a)
instance k0_chk480.dec : ∀ (v569 : IVec S16 32), Decidable (k0_chk480 v569) := fun v569 => decidable_of_iff' _ (Iff.of_eq (k0_chk480.eq_1 v569))
theorem k0_idx480_inb : ∀ (v569 : IVec S16 32) (k0_hw480 : k0_chk480 v569), ∀ a x, ((![v569] : Fin 1 → IVec S16 32) a x).toNat < S100000.size a := fun v569 k0_hw480 => k0_hw480
def k0_off554 (k0_t45 : Fin k0_t45_loop.trips) : Fin 1 → Nat :=
  let c0_i32_281 : BitVec 32 := 0#32
  let c1_i32_283 : BitVec 32 := 1#32
  let arg36 : BitVec 32 := Scf.iv c0_i32_281 c1_i32_283 k0_t45
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off555 (i : grid0.Coords) (k0_t43 : Fin (k0_t43_loop i).trips) : Fin 2 → Nat :=
  let c252_i32_285 : BitVec 32 := 252#32
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c1_i32_92 : BitVec 32 := 1#32
  let arg34 : BitVec 32 := Scf.iv v153 c1_i32_92 k0_t43
  let v460 : BitVec 32 := Scalar.addi c252_i32_285 arg34
  let c8192_i32_r60 : BitVec 32 := 8192#32
  ![v460.toNat, 8192]
@[reducible] def k0_t46_loop (i : grid0.Coords) : Scf.Loop 32 :=
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c36_i32_88 : BitVec 32 := 36#32
  let c0_i32_87 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c252_i32_86 : BitVec 32 := 252#32
  let v154 : BitVec 32 := Scalar.subi v38 c252_i32_86
  let v155 : BitVec 32 := Scalar.maxsi c0_i32_87 v154
  let v156 : BitVec 32 := Scalar.minsi c36_i32_88 v155
  let v160 : BitVec 32 := Scalar.subi v156 v153
  let c1_i32_91 : BitVec 32 := 1#32
  let v162 : BitVec 32 := Scalar.divsi v160 c1_i32_91
  let v163 : BitVec 32 := Scalar.muli v162 c1_i32_91
  let v164 : BitVec 32 := Scalar.addi v153 v163
  let v161 : BitVec 32 := Scalar.addi v153 v160
  let c1_i32_93 : BitVec 32 := 1#32
  ⟨v164, v161, c1_i32_93⟩
def k0_off556 (i : grid0.Coords) (k0_t46 : Fin (k0_t46_loop i).trips) : Fin 2 → Nat :=
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c36_i32_88 : BitVec 32 := 36#32
  let c0_i32_87 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c252_i32_86 : BitVec 32 := 252#32
  let v154 : BitVec 32 := Scalar.subi v38 c252_i32_86
  let v155 : BitVec 32 := Scalar.maxsi c0_i32_87 v154
  let v156 : BitVec 32 := Scalar.minsi c36_i32_88 v155
  let v160 : BitVec 32 := Scalar.subi v156 v153
  let c1_i32_91 : BitVec 32 := 1#32
  let v162 : BitVec 32 := Scalar.divsi v160 c1_i32_91
  let v163 : BitVec 32 := Scalar.muli v162 c1_i32_91
  let v164 : BitVec 32 := Scalar.addi v153 v163
  let c1_i32_93 : BitVec 32 := 1#32
  let arg34 : BitVec 32 := Scf.iv v164 c1_i32_93 k0_t46
  let c0_i32_287_r61 : BitVec 32 := 0#32
  ![arg34.toNat, 0]
@[reducible] def k0_t47_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off557 (k0_t47 : Fin k0_t47_loop.trips) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk481 (v464 : IVec S16 32) : Prop :=
  (∀ a x, ((![v464] : Fin 1 → IVec S16 32) a x).toNat < S100000.size a)
instance k0_chk481.dec : ∀ (v464 : IVec S16 32), Decidable (k0_chk481 v464) := fun v464 => decidable_of_iff' _ (Iff.of_eq (k0_chk481.eq_1 v464))
theorem k0_idx481_inb : ∀ (v464 : IVec S16 32) (k0_hw481 : k0_chk481 v464), ∀ a x, ((![v464] : Fin 1 → IVec S16 32) a x).toNat < S100000.size a := fun v464 k0_hw481 => k0_hw481
def k0_off558 (k0_t47 : Fin k0_t47_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v466 : BitVec 32 := Scalar.addi v461 c0_i32_288
  let v467 : Index := Scalar.indexCast v466
  ![v467.toNat]

def k0_chk482 (v471 : IVec S16 32) : Prop :=
  (∀ a x, ((![v471] : Fin 1 → IVec S16 32) a x).toNat < S100000.size a)
instance k0_chk482.dec : ∀ (v471 : IVec S16 32), Decidable (k0_chk482 v471) := fun v471 => decidable_of_iff' _ (Iff.of_eq (k0_chk482.eq_1 v471))
theorem k0_idx482_inb : ∀ (v471 : IVec S16 32) (k0_hw482 : k0_chk482 v471), ∀ a x, ((![v471] : Fin 1 → IVec S16 32) a x).toNat < S100000.size a := fun v471 k0_hw482 => k0_hw482
def k0_off559 (k0_t47 : Fin k0_t47_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v473 : BitVec 32 := Scalar.addi v461 c16_i32_289
  let v474 : Index := Scalar.indexCast v473
  ![v474.toNat]

def k0_chk483 (v478 : IVec S16 32) : Prop :=
  (∀ a x, ((![v478] : Fin 1 → IVec S16 32) a x).toNat < S100000.size a)
instance k0_chk483.dec : ∀ (v478 : IVec S16 32), Decidable (k0_chk483 v478) := fun v478 => decidable_of_iff' _ (Iff.of_eq (k0_chk483.eq_1 v478))
theorem k0_idx483_inb : ∀ (v478 : IVec S16 32) (k0_hw483 : k0_chk483 v478), ∀ a x, ((![v478] : Fin 1 → IVec S16 32) a x).toNat < S100000.size a := fun v478 k0_hw483 => k0_hw483
def k0_off560 (k0_t47 : Fin k0_t47_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v480 : BitVec 32 := Scalar.addi v461 c32_i32_291
  let v481 : Index := Scalar.indexCast v480
  ![v481.toNat]

def k0_chk484 (v485 : IVec S16 32) : Prop :=
  (∀ a x, ((![v485] : Fin 1 → IVec S16 32) a x).toNat < S100000.size a)
instance k0_chk484.dec : ∀ (v485 : IVec S16 32), Decidable (k0_chk484 v485) := fun v485 => decidable_of_iff' _ (Iff.of_eq (k0_chk484.eq_1 v485))
theorem k0_idx484_inb : ∀ (v485 : IVec S16 32) (k0_hw484 : k0_chk484 v485), ∀ a x, ((![v485] : Fin 1 → IVec S16 32) a x).toNat < S100000.size a := fun v485 k0_hw484 => k0_hw484
def k0_off561 (k0_t47 : Fin k0_t47_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v487 : BitVec 32 := Scalar.addi v461 c48_i32_292
  let v488 : Index := Scalar.indexCast v487
  ![v488.toNat]

def k0_chk485 (v492 : IVec S16 32) : Prop :=
  (∀ a x, ((![v492] : Fin 1 → IVec S16 32) a x).toNat < S100000.size a)
instance k0_chk485.dec : ∀ (v492 : IVec S16 32), Decidable (k0_chk485 v492) := fun v492 => decidable_of_iff' _ (Iff.of_eq (k0_chk485.eq_1 v492))
theorem k0_idx485_inb : ∀ (v492 : IVec S16 32) (k0_hw485 : k0_chk485 v492), ∀ a x, ((![v492] : Fin 1 → IVec S16 32) a x).toNat < S100000.size a := fun v492 k0_hw485 => k0_hw485
def k0_off562 (k0_t47 : Fin k0_t47_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v494 : BitVec 32 := Scalar.addi v461 c64_i32_293
  let v495 : Index := Scalar.indexCast v494
  ![v495.toNat]

def k0_chk486 (v499 : IVec S16 32) : Prop :=
  (∀ a x, ((![v499] : Fin 1 → IVec S16 32) a x).toNat < S100000.size a)
instance k0_chk486.dec : ∀ (v499 : IVec S16 32), Decidable (k0_chk486 v499) := fun v499 => decidable_of_iff' _ (Iff.of_eq (k0_chk486.eq_1 v499))
theorem k0_idx486_inb : ∀ (v499 : IVec S16 32) (k0_hw486 : k0_chk486 v499), ∀ a x, ((![v499] : Fin 1 → IVec S16 32) a x).toNat < S100000.size a := fun v499 k0_hw486 => k0_hw486
def k0_off563 (k0_t47 : Fin k0_t47_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v501 : BitVec 32 := Scalar.addi v461 c80_i32_294
  let v502 : Index := Scalar.indexCast v501
  ![v502.toNat]

def k0_chk487 (v506 : IVec S16 32) : Prop :=
  (∀ a x, ((![v506] : Fin 1 → IVec S16 32) a x).toNat < S100000.size a)
instance k0_chk487.dec : ∀ (v506 : IVec S16 32), Decidable (k0_chk487 v506) := fun v506 => decidable_of_iff' _ (Iff.of_eq (k0_chk487.eq_1 v506))
theorem k0_idx487_inb : ∀ (v506 : IVec S16 32) (k0_hw487 : k0_chk487 v506), ∀ a x, ((![v506] : Fin 1 → IVec S16 32) a x).toNat < S100000.size a := fun v506 k0_hw487 => k0_hw487
def k0_off564 (k0_t47 : Fin k0_t47_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v508 : BitVec 32 := Scalar.addi v461 c96_i32_295
  let v509 : Index := Scalar.indexCast v508
  ![v509.toNat]

def k0_chk488 (v513 : IVec S16 32) : Prop :=
  (∀ a x, ((![v513] : Fin 1 → IVec S16 32) a x).toNat < S100000.size a)
instance k0_chk488.dec : ∀ (v513 : IVec S16 32), Decidable (k0_chk488 v513) := fun v513 => decidable_of_iff' _ (Iff.of_eq (k0_chk488.eq_1 v513))
theorem k0_idx488_inb : ∀ (v513 : IVec S16 32) (k0_hw488 : k0_chk488 v513), ∀ a x, ((![v513] : Fin 1 → IVec S16 32) a x).toNat < S100000.size a := fun v513 k0_hw488 => k0_hw488
def k0_off565 (k0_t47 : Fin k0_t47_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v515 : BitVec 32 := Scalar.addi v461 c112_i32_296
  let v516 : Index := Scalar.indexCast v515
  ![v516.toNat]

def k0_chk489 (v520 : IVec S16 32) : Prop :=
  (∀ a x, ((![v520] : Fin 1 → IVec S16 32) a x).toNat < S100000.size a)
instance k0_chk489.dec : ∀ (v520 : IVec S16 32), Decidable (k0_chk489 v520) := fun v520 => decidable_of_iff' _ (Iff.of_eq (k0_chk489.eq_1 v520))
theorem k0_idx489_inb : ∀ (v520 : IVec S16 32) (k0_hw489 : k0_chk489 v520), ∀ a x, ((![v520] : Fin 1 → IVec S16 32) a x).toNat < S100000.size a := fun v520 k0_hw489 => k0_hw489
def k0_off566 (k0_t47 : Fin k0_t47_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v522 : BitVec 32 := Scalar.addi v461 c128_i32_297
  let v523 : Index := Scalar.indexCast v522
  ![v523.toNat]

def k0_chk490 (v527 : IVec S16 32) : Prop :=
  (∀ a x, ((![v527] : Fin 1 → IVec S16 32) a x).toNat < S100000.size a)
instance k0_chk490.dec : ∀ (v527 : IVec S16 32), Decidable (k0_chk490 v527) := fun v527 => decidable_of_iff' _ (Iff.of_eq (k0_chk490.eq_1 v527))
theorem k0_idx490_inb : ∀ (v527 : IVec S16 32) (k0_hw490 : k0_chk490 v527), ∀ a x, ((![v527] : Fin 1 → IVec S16 32) a x).toNat < S100000.size a := fun v527 k0_hw490 => k0_hw490
def k0_off567 (k0_t47 : Fin k0_t47_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v529 : BitVec 32 := Scalar.addi v461 c144_i32_299
  let v530 : Index := Scalar.indexCast v529
  ![v530.toNat]

def k0_chk491 (v534 : IVec S16 32) : Prop :=
  (∀ a x, ((![v534] : Fin 1 → IVec S16 32) a x).toNat < S100000.size a)
instance k0_chk491.dec : ∀ (v534 : IVec S16 32), Decidable (k0_chk491 v534) := fun v534 => decidable_of_iff' _ (Iff.of_eq (k0_chk491.eq_1 v534))
theorem k0_idx491_inb : ∀ (v534 : IVec S16 32) (k0_hw491 : k0_chk491 v534), ∀ a x, ((![v534] : Fin 1 → IVec S16 32) a x).toNat < S100000.size a := fun v534 k0_hw491 => k0_hw491
def k0_off568 (k0_t47 : Fin k0_t47_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v536 : BitVec 32 := Scalar.addi v461 c160_i32_300
  let v537 : Index := Scalar.indexCast v536
  ![v537.toNat]

def k0_chk492 (v541 : IVec S16 32) : Prop :=
  (∀ a x, ((![v541] : Fin 1 → IVec S16 32) a x).toNat < S100000.size a)
instance k0_chk492.dec : ∀ (v541 : IVec S16 32), Decidable (k0_chk492 v541) := fun v541 => decidable_of_iff' _ (Iff.of_eq (k0_chk492.eq_1 v541))
theorem k0_idx492_inb : ∀ (v541 : IVec S16 32) (k0_hw492 : k0_chk492 v541), ∀ a x, ((![v541] : Fin 1 → IVec S16 32) a x).toNat < S100000.size a := fun v541 k0_hw492 => k0_hw492
def k0_off569 (k0_t47 : Fin k0_t47_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v543 : BitVec 32 := Scalar.addi v461 c176_i32_301
  let v544 : Index := Scalar.indexCast v543
  ![v544.toNat]

def k0_chk493 (v548 : IVec S16 32) : Prop :=
  (∀ a x, ((![v548] : Fin 1 → IVec S16 32) a x).toNat < S100000.size a)
instance k0_chk493.dec : ∀ (v548 : IVec S16 32), Decidable (k0_chk493 v548) := fun v548 => decidable_of_iff' _ (Iff.of_eq (k0_chk493.eq_1 v548))
theorem k0_idx493_inb : ∀ (v548 : IVec S16 32) (k0_hw493 : k0_chk493 v548), ∀ a x, ((![v548] : Fin 1 → IVec S16 32) a x).toNat < S100000.size a := fun v548 k0_hw493 => k0_hw493
def k0_off570 (k0_t47 : Fin k0_t47_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v550 : BitVec 32 := Scalar.addi v461 c192_i32_302
  let v551 : Index := Scalar.indexCast v550
  ![v551.toNat]

def k0_chk494 (v555 : IVec S16 32) : Prop :=
  (∀ a x, ((![v555] : Fin 1 → IVec S16 32) a x).toNat < S100000.size a)
instance k0_chk494.dec : ∀ (v555 : IVec S16 32), Decidable (k0_chk494 v555) := fun v555 => decidable_of_iff' _ (Iff.of_eq (k0_chk494.eq_1 v555))
theorem k0_idx494_inb : ∀ (v555 : IVec S16 32) (k0_hw494 : k0_chk494 v555), ∀ a x, ((![v555] : Fin 1 → IVec S16 32) a x).toNat < S100000.size a := fun v555 k0_hw494 => k0_hw494
def k0_off571 (k0_t47 : Fin k0_t47_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v557 : BitVec 32 := Scalar.addi v461 c208_i32_303
  let v558 : Index := Scalar.indexCast v557
  ![v558.toNat]

def k0_chk495 (v562 : IVec S16 32) : Prop :=
  (∀ a x, ((![v562] : Fin 1 → IVec S16 32) a x).toNat < S100000.size a)
instance k0_chk495.dec : ∀ (v562 : IVec S16 32), Decidable (k0_chk495 v562) := fun v562 => decidable_of_iff' _ (Iff.of_eq (k0_chk495.eq_1 v562))
theorem k0_idx495_inb : ∀ (v562 : IVec S16 32) (k0_hw495 : k0_chk495 v562), ∀ a x, ((![v562] : Fin 1 → IVec S16 32) a x).toNat < S100000.size a := fun v562 k0_hw495 => k0_hw495
def k0_off572 (k0_t47 : Fin k0_t47_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let v564 : BitVec 32 := Scalar.addi v461 c224_i32_304
  let v565 : Index := Scalar.indexCast v564
  ![v565.toNat]

def k0_chk496 (v569 : IVec S16 32) : Prop :=
  (∀ a x, ((![v569] : Fin 1 → IVec S16 32) a x).toNat < S100000.size a)
instance k0_chk496.dec : ∀ (v569 : IVec S16 32), Decidable (k0_chk496 v569) := fun v569 => decidable_of_iff' _ (Iff.of_eq (k0_chk496.eq_1 v569))
theorem k0_idx496_inb : ∀ (v569 : IVec S16 32) (k0_hw496 : k0_chk496 v569), ∀ a x, ((![v569] : Fin 1 → IVec S16 32) a x).toNat < S100000.size a := fun v569 k0_hw496 => k0_hw496
def k0_off573 (k0_t47 : Fin k0_t47_loop.trips) : Fin 1 → Nat :=
  let c0_i32_275 : BitVec 32 := 0#32
  let c1_i32_277 : BitVec 32 := 1#32
  let arg36 : BitVec 32 := Scf.iv c0_i32_275 c1_i32_277 k0_t47
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off574 (i : grid0.Coords) (k0_t46 : Fin (k0_t46_loop i).trips) : Fin 2 → Nat :=
  let c252_i32_279 : BitVec 32 := 252#32
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c36_i32_88 : BitVec 32 := 36#32
  let c0_i32_87 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c252_i32_86 : BitVec 32 := 252#32
  let v154 : BitVec 32 := Scalar.subi v38 c252_i32_86
  let v155 : BitVec 32 := Scalar.maxsi c0_i32_87 v154
  let v156 : BitVec 32 := Scalar.minsi c36_i32_88 v155
  let v160 : BitVec 32 := Scalar.subi v156 v153
  let c1_i32_91 : BitVec 32 := 1#32
  let v162 : BitVec 32 := Scalar.divsi v160 c1_i32_91
  let v163 : BitVec 32 := Scalar.muli v162 c1_i32_91
  let v164 : BitVec 32 := Scalar.addi v153 v163
  let c1_i32_93 : BitVec 32 := 1#32
  let arg34 : BitVec 32 := Scf.iv v164 c1_i32_93 k0_t46
  let v457 : BitVec 32 := Scalar.addi c252_i32_279 arg34
  let c0_i32_287_r62 : BitVec 32 := 0#32
  ![v457.toNat, 0]
@[reducible] def k0_t48_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off575 (k0_t48 : Fin k0_t48_loop.trips) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk497 (v464 : IVec S16 32) : Prop :=
  (∀ a x, ((![v464] : Fin 1 → IVec S16 32) a x).toNat < S100000.size a)
instance k0_chk497.dec : ∀ (v464 : IVec S16 32), Decidable (k0_chk497 v464) := fun v464 => decidable_of_iff' _ (Iff.of_eq (k0_chk497.eq_1 v464))
theorem k0_idx497_inb : ∀ (v464 : IVec S16 32) (k0_hw497 : k0_chk497 v464), ∀ a x, ((![v464] : Fin 1 → IVec S16 32) a x).toNat < S100000.size a := fun v464 k0_hw497 => k0_hw497
def k0_off576 (k0_t48 : Fin k0_t48_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v466 : BitVec 32 := Scalar.addi v461 c0_i32_288
  let v467 : Index := Scalar.indexCast v466
  ![v467.toNat]

def k0_chk498 (v471 : IVec S16 32) : Prop :=
  (∀ a x, ((![v471] : Fin 1 → IVec S16 32) a x).toNat < S100000.size a)
instance k0_chk498.dec : ∀ (v471 : IVec S16 32), Decidable (k0_chk498 v471) := fun v471 => decidable_of_iff' _ (Iff.of_eq (k0_chk498.eq_1 v471))
theorem k0_idx498_inb : ∀ (v471 : IVec S16 32) (k0_hw498 : k0_chk498 v471), ∀ a x, ((![v471] : Fin 1 → IVec S16 32) a x).toNat < S100000.size a := fun v471 k0_hw498 => k0_hw498
def k0_off577 (k0_t48 : Fin k0_t48_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v473 : BitVec 32 := Scalar.addi v461 c16_i32_289
  let v474 : Index := Scalar.indexCast v473
  ![v474.toNat]

def k0_chk499 (v478 : IVec S16 32) : Prop :=
  (∀ a x, ((![v478] : Fin 1 → IVec S16 32) a x).toNat < S100000.size a)
instance k0_chk499.dec : ∀ (v478 : IVec S16 32), Decidable (k0_chk499 v478) := fun v478 => decidable_of_iff' _ (Iff.of_eq (k0_chk499.eq_1 v478))
theorem k0_idx499_inb : ∀ (v478 : IVec S16 32) (k0_hw499 : k0_chk499 v478), ∀ a x, ((![v478] : Fin 1 → IVec S16 32) a x).toNat < S100000.size a := fun v478 k0_hw499 => k0_hw499
def k0_off578 (k0_t48 : Fin k0_t48_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v480 : BitVec 32 := Scalar.addi v461 c32_i32_291
  let v481 : Index := Scalar.indexCast v480
  ![v481.toNat]

def k0_chk500 (v485 : IVec S16 32) : Prop :=
  (∀ a x, ((![v485] : Fin 1 → IVec S16 32) a x).toNat < S100000.size a)
instance k0_chk500.dec : ∀ (v485 : IVec S16 32), Decidable (k0_chk500 v485) := fun v485 => decidable_of_iff' _ (Iff.of_eq (k0_chk500.eq_1 v485))
theorem k0_idx500_inb : ∀ (v485 : IVec S16 32) (k0_hw500 : k0_chk500 v485), ∀ a x, ((![v485] : Fin 1 → IVec S16 32) a x).toNat < S100000.size a := fun v485 k0_hw500 => k0_hw500
def k0_off579 (k0_t48 : Fin k0_t48_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v487 : BitVec 32 := Scalar.addi v461 c48_i32_292
  let v488 : Index := Scalar.indexCast v487
  ![v488.toNat]

def k0_chk501 (v492 : IVec S16 32) : Prop :=
  (∀ a x, ((![v492] : Fin 1 → IVec S16 32) a x).toNat < S100000.size a)
instance k0_chk501.dec : ∀ (v492 : IVec S16 32), Decidable (k0_chk501 v492) := fun v492 => decidable_of_iff' _ (Iff.of_eq (k0_chk501.eq_1 v492))
theorem k0_idx501_inb : ∀ (v492 : IVec S16 32) (k0_hw501 : k0_chk501 v492), ∀ a x, ((![v492] : Fin 1 → IVec S16 32) a x).toNat < S100000.size a := fun v492 k0_hw501 => k0_hw501
def k0_off580 (k0_t48 : Fin k0_t48_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v494 : BitVec 32 := Scalar.addi v461 c64_i32_293
  let v495 : Index := Scalar.indexCast v494
  ![v495.toNat]

def k0_chk502 (v499 : IVec S16 32) : Prop :=
  (∀ a x, ((![v499] : Fin 1 → IVec S16 32) a x).toNat < S100000.size a)
instance k0_chk502.dec : ∀ (v499 : IVec S16 32), Decidable (k0_chk502 v499) := fun v499 => decidable_of_iff' _ (Iff.of_eq (k0_chk502.eq_1 v499))
theorem k0_idx502_inb : ∀ (v499 : IVec S16 32) (k0_hw502 : k0_chk502 v499), ∀ a x, ((![v499] : Fin 1 → IVec S16 32) a x).toNat < S100000.size a := fun v499 k0_hw502 => k0_hw502
def k0_off581 (k0_t48 : Fin k0_t48_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v501 : BitVec 32 := Scalar.addi v461 c80_i32_294
  let v502 : Index := Scalar.indexCast v501
  ![v502.toNat]

def k0_chk503 (v506 : IVec S16 32) : Prop :=
  (∀ a x, ((![v506] : Fin 1 → IVec S16 32) a x).toNat < S100000.size a)
instance k0_chk503.dec : ∀ (v506 : IVec S16 32), Decidable (k0_chk503 v506) := fun v506 => decidable_of_iff' _ (Iff.of_eq (k0_chk503.eq_1 v506))
theorem k0_idx503_inb : ∀ (v506 : IVec S16 32) (k0_hw503 : k0_chk503 v506), ∀ a x, ((![v506] : Fin 1 → IVec S16 32) a x).toNat < S100000.size a := fun v506 k0_hw503 => k0_hw503
def k0_off582 (k0_t48 : Fin k0_t48_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v508 : BitVec 32 := Scalar.addi v461 c96_i32_295
  let v509 : Index := Scalar.indexCast v508
  ![v509.toNat]

def k0_chk504 (v513 : IVec S16 32) : Prop :=
  (∀ a x, ((![v513] : Fin 1 → IVec S16 32) a x).toNat < S100000.size a)
instance k0_chk504.dec : ∀ (v513 : IVec S16 32), Decidable (k0_chk504 v513) := fun v513 => decidable_of_iff' _ (Iff.of_eq (k0_chk504.eq_1 v513))
theorem k0_idx504_inb : ∀ (v513 : IVec S16 32) (k0_hw504 : k0_chk504 v513), ∀ a x, ((![v513] : Fin 1 → IVec S16 32) a x).toNat < S100000.size a := fun v513 k0_hw504 => k0_hw504
def k0_off583 (k0_t48 : Fin k0_t48_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v515 : BitVec 32 := Scalar.addi v461 c112_i32_296
  let v516 : Index := Scalar.indexCast v515
  ![v516.toNat]

def k0_chk505 (v520 : IVec S16 32) : Prop :=
  (∀ a x, ((![v520] : Fin 1 → IVec S16 32) a x).toNat < S100000.size a)
instance k0_chk505.dec : ∀ (v520 : IVec S16 32), Decidable (k0_chk505 v520) := fun v520 => decidable_of_iff' _ (Iff.of_eq (k0_chk505.eq_1 v520))
theorem k0_idx505_inb : ∀ (v520 : IVec S16 32) (k0_hw505 : k0_chk505 v520), ∀ a x, ((![v520] : Fin 1 → IVec S16 32) a x).toNat < S100000.size a := fun v520 k0_hw505 => k0_hw505
def k0_off584 (k0_t48 : Fin k0_t48_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v522 : BitVec 32 := Scalar.addi v461 c128_i32_297
  let v523 : Index := Scalar.indexCast v522
  ![v523.toNat]

def k0_chk506 (v527 : IVec S16 32) : Prop :=
  (∀ a x, ((![v527] : Fin 1 → IVec S16 32) a x).toNat < S100000.size a)
instance k0_chk506.dec : ∀ (v527 : IVec S16 32), Decidable (k0_chk506 v527) := fun v527 => decidable_of_iff' _ (Iff.of_eq (k0_chk506.eq_1 v527))
theorem k0_idx506_inb : ∀ (v527 : IVec S16 32) (k0_hw506 : k0_chk506 v527), ∀ a x, ((![v527] : Fin 1 → IVec S16 32) a x).toNat < S100000.size a := fun v527 k0_hw506 => k0_hw506
def k0_off585 (k0_t48 : Fin k0_t48_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v529 : BitVec 32 := Scalar.addi v461 c144_i32_299
  let v530 : Index := Scalar.indexCast v529
  ![v530.toNat]

def k0_chk507 (v534 : IVec S16 32) : Prop :=
  (∀ a x, ((![v534] : Fin 1 → IVec S16 32) a x).toNat < S100000.size a)
instance k0_chk507.dec : ∀ (v534 : IVec S16 32), Decidable (k0_chk507 v534) := fun v534 => decidable_of_iff' _ (Iff.of_eq (k0_chk507.eq_1 v534))
theorem k0_idx507_inb : ∀ (v534 : IVec S16 32) (k0_hw507 : k0_chk507 v534), ∀ a x, ((![v534] : Fin 1 → IVec S16 32) a x).toNat < S100000.size a := fun v534 k0_hw507 => k0_hw507
def k0_off586 (k0_t48 : Fin k0_t48_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v536 : BitVec 32 := Scalar.addi v461 c160_i32_300
  let v537 : Index := Scalar.indexCast v536
  ![v537.toNat]

def k0_chk508 (v541 : IVec S16 32) : Prop :=
  (∀ a x, ((![v541] : Fin 1 → IVec S16 32) a x).toNat < S100000.size a)
instance k0_chk508.dec : ∀ (v541 : IVec S16 32), Decidable (k0_chk508 v541) := fun v541 => decidable_of_iff' _ (Iff.of_eq (k0_chk508.eq_1 v541))
theorem k0_idx508_inb : ∀ (v541 : IVec S16 32) (k0_hw508 : k0_chk508 v541), ∀ a x, ((![v541] : Fin 1 → IVec S16 32) a x).toNat < S100000.size a := fun v541 k0_hw508 => k0_hw508
def k0_off587 (k0_t48 : Fin k0_t48_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v543 : BitVec 32 := Scalar.addi v461 c176_i32_301
  let v544 : Index := Scalar.indexCast v543
  ![v544.toNat]

def k0_chk509 (v548 : IVec S16 32) : Prop :=
  (∀ a x, ((![v548] : Fin 1 → IVec S16 32) a x).toNat < S100000.size a)
instance k0_chk509.dec : ∀ (v548 : IVec S16 32), Decidable (k0_chk509 v548) := fun v548 => decidable_of_iff' _ (Iff.of_eq (k0_chk509.eq_1 v548))
theorem k0_idx509_inb : ∀ (v548 : IVec S16 32) (k0_hw509 : k0_chk509 v548), ∀ a x, ((![v548] : Fin 1 → IVec S16 32) a x).toNat < S100000.size a := fun v548 k0_hw509 => k0_hw509
def k0_off588 (k0_t48 : Fin k0_t48_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v550 : BitVec 32 := Scalar.addi v461 c192_i32_302
  let v551 : Index := Scalar.indexCast v550
  ![v551.toNat]

def k0_chk510 (v555 : IVec S16 32) : Prop :=
  (∀ a x, ((![v555] : Fin 1 → IVec S16 32) a x).toNat < S100000.size a)
instance k0_chk510.dec : ∀ (v555 : IVec S16 32), Decidable (k0_chk510 v555) := fun v555 => decidable_of_iff' _ (Iff.of_eq (k0_chk510.eq_1 v555))
theorem k0_idx510_inb : ∀ (v555 : IVec S16 32) (k0_hw510 : k0_chk510 v555), ∀ a x, ((![v555] : Fin 1 → IVec S16 32) a x).toNat < S100000.size a := fun v555 k0_hw510 => k0_hw510
def k0_off589 (k0_t48 : Fin k0_t48_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v557 : BitVec 32 := Scalar.addi v461 c208_i32_303
  let v558 : Index := Scalar.indexCast v557
  ![v558.toNat]

def k0_chk511 (v562 : IVec S16 32) : Prop :=
  (∀ a x, ((![v562] : Fin 1 → IVec S16 32) a x).toNat < S100000.size a)
instance k0_chk511.dec : ∀ (v562 : IVec S16 32), Decidable (k0_chk511 v562) := fun v562 => decidable_of_iff' _ (Iff.of_eq (k0_chk511.eq_1 v562))
theorem k0_idx511_inb : ∀ (v562 : IVec S16 32) (k0_hw511 : k0_chk511 v562), ∀ a x, ((![v562] : Fin 1 → IVec S16 32) a x).toNat < S100000.size a := fun v562 k0_hw511 => k0_hw511
def k0_off590 (k0_t48 : Fin k0_t48_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let v564 : BitVec 32 := Scalar.addi v461 c224_i32_304
  let v565 : Index := Scalar.indexCast v564
  ![v565.toNat]

def k0_chk512 (v569 : IVec S16 32) : Prop :=
  (∀ a x, ((![v569] : Fin 1 → IVec S16 32) a x).toNat < S100000.size a)
instance k0_chk512.dec : ∀ (v569 : IVec S16 32), Decidable (k0_chk512 v569) := fun v569 => decidable_of_iff' _ (Iff.of_eq (k0_chk512.eq_1 v569))
theorem k0_idx512_inb : ∀ (v569 : IVec S16 32) (k0_hw512 : k0_chk512 v569), ∀ a x, ((![v569] : Fin 1 → IVec S16 32) a x).toNat < S100000.size a := fun v569 k0_hw512 => k0_hw512
def k0_off591 (k0_t48 : Fin k0_t48_loop.trips) : Fin 1 → Nat :=
  let c0_i32_281 : BitVec 32 := 0#32
  let c1_i32_283 : BitVec 32 := 1#32
  let arg36 : BitVec 32 := Scf.iv c0_i32_281 c1_i32_283 k0_t48
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off592 (i : grid0.Coords) (k0_t46 : Fin (k0_t46_loop i).trips) : Fin 2 → Nat :=
  let c252_i32_285 : BitVec 32 := 252#32
  let c36_i32_85 : BitVec 32 := 36#32
  let c0_i32_84 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c252_i32 : BitVec 32 := 252#32
  let v151 : BitVec 32 := Scalar.subi v19 c252_i32
  let v152 : BitVec 32 := Scalar.maxsi c0_i32_84 v151
  let v153 : BitVec 32 := Scalar.minsi c36_i32_85 v152
  let c36_i32_88 : BitVec 32 := 36#32
  let c0_i32_87 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c252_i32_86 : BitVec 32 := 252#32
  let v154 : BitVec 32 := Scalar.subi v38 c252_i32_86
  let v155 : BitVec 32 := Scalar.maxsi c0_i32_87 v154
  let v156 : BitVec 32 := Scalar.minsi c36_i32_88 v155
  let v160 : BitVec 32 := Scalar.subi v156 v153
  let c1_i32_91 : BitVec 32 := 1#32
  let v162 : BitVec 32 := Scalar.divsi v160 c1_i32_91
  let v163 : BitVec 32 := Scalar.muli v162 c1_i32_91
  let v164 : BitVec 32 := Scalar.addi v153 v163
  let c1_i32_93 : BitVec 32 := 1#32
  let arg34 : BitVec 32 := Scf.iv v164 c1_i32_93 k0_t46
  let v460 : BitVec 32 := Scalar.addi c252_i32_285 arg34
  let c8192_i32_r63 : BitVec 32 := 8192#32
  ![v460.toNat, 8192]
@[reducible] def k0_t49_loop (i : grid0.Coords) : Scf.Loop 32 :=
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c36_i32_98 : BitVec 32 := 36#32
  let c0_i32_97 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_96 : BitVec 32 := 288#32
  let v170 : BitVec 32 := Scalar.subi v38 c288_i32_96
  let v171 : BitVec 32 := Scalar.maxsi c0_i32_97 v170
  let v172 : BitVec 32 := Scalar.minsi c36_i32_98 v171
  let v176 : BitVec 32 := Scalar.subi v172 v169
  let c1_i32_101 : BitVec 32 := 1#32
  let v178 : BitVec 32 := Scalar.divsi v176 c1_i32_101
  let v179 : BitVec 32 := Scalar.muli v178 c1_i32_101
  let v180 : BitVec 32 := Scalar.addi v169 v179
  let c1_i32_102 : BitVec 32 := 1#32
  ⟨v169, v180, c1_i32_102⟩
def k0_off593 (i : grid0.Coords) (k0_t49 : Fin (k0_t49_loop i).trips) : Fin 2 → Nat :=
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c1_i32_102 : BitVec 32 := 1#32
  let arg34 : BitVec 32 := Scf.iv v169 c1_i32_102 k0_t49
  let c0_i32_287_r66 : BitVec 32 := 0#32
  ![arg34.toNat, 0]
@[reducible] def k0_t50_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off594 (k0_t50 : Fin k0_t50_loop.trips) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk513 (v464 : IVec S16 32) : Prop :=
  (∀ a x, ((![v464] : Fin 1 → IVec S16 32) a x).toNat < S100000.size a)
instance k0_chk513.dec : ∀ (v464 : IVec S16 32), Decidable (k0_chk513 v464) := fun v464 => decidable_of_iff' _ (Iff.of_eq (k0_chk513.eq_1 v464))
theorem k0_idx513_inb : ∀ (v464 : IVec S16 32) (k0_hw513 : k0_chk513 v464), ∀ a x, ((![v464] : Fin 1 → IVec S16 32) a x).toNat < S100000.size a := fun v464 k0_hw513 => k0_hw513
def k0_off595 (k0_t50 : Fin k0_t50_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v466 : BitVec 32 := Scalar.addi v461 c0_i32_288
  let v467 : Index := Scalar.indexCast v466
  ![v467.toNat]

def k0_chk514 (v471 : IVec S16 32) : Prop :=
  (∀ a x, ((![v471] : Fin 1 → IVec S16 32) a x).toNat < S100000.size a)
instance k0_chk514.dec : ∀ (v471 : IVec S16 32), Decidable (k0_chk514 v471) := fun v471 => decidable_of_iff' _ (Iff.of_eq (k0_chk514.eq_1 v471))
theorem k0_idx514_inb : ∀ (v471 : IVec S16 32) (k0_hw514 : k0_chk514 v471), ∀ a x, ((![v471] : Fin 1 → IVec S16 32) a x).toNat < S100000.size a := fun v471 k0_hw514 => k0_hw514
def k0_off596 (k0_t50 : Fin k0_t50_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v473 : BitVec 32 := Scalar.addi v461 c16_i32_289
  let v474 : Index := Scalar.indexCast v473
  ![v474.toNat]

def k0_chk515 (v478 : IVec S16 32) : Prop :=
  (∀ a x, ((![v478] : Fin 1 → IVec S16 32) a x).toNat < S100000.size a)
instance k0_chk515.dec : ∀ (v478 : IVec S16 32), Decidable (k0_chk515 v478) := fun v478 => decidable_of_iff' _ (Iff.of_eq (k0_chk515.eq_1 v478))
theorem k0_idx515_inb : ∀ (v478 : IVec S16 32) (k0_hw515 : k0_chk515 v478), ∀ a x, ((![v478] : Fin 1 → IVec S16 32) a x).toNat < S100000.size a := fun v478 k0_hw515 => k0_hw515
def k0_off597 (k0_t50 : Fin k0_t50_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v480 : BitVec 32 := Scalar.addi v461 c32_i32_291
  let v481 : Index := Scalar.indexCast v480
  ![v481.toNat]

def k0_chk516 (v485 : IVec S16 32) : Prop :=
  (∀ a x, ((![v485] : Fin 1 → IVec S16 32) a x).toNat < S100000.size a)
instance k0_chk516.dec : ∀ (v485 : IVec S16 32), Decidable (k0_chk516 v485) := fun v485 => decidable_of_iff' _ (Iff.of_eq (k0_chk516.eq_1 v485))
theorem k0_idx516_inb : ∀ (v485 : IVec S16 32) (k0_hw516 : k0_chk516 v485), ∀ a x, ((![v485] : Fin 1 → IVec S16 32) a x).toNat < S100000.size a := fun v485 k0_hw516 => k0_hw516
def k0_off598 (k0_t50 : Fin k0_t50_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v487 : BitVec 32 := Scalar.addi v461 c48_i32_292
  let v488 : Index := Scalar.indexCast v487
  ![v488.toNat]

def k0_chk517 (v492 : IVec S16 32) : Prop :=
  (∀ a x, ((![v492] : Fin 1 → IVec S16 32) a x).toNat < S100000.size a)
instance k0_chk517.dec : ∀ (v492 : IVec S16 32), Decidable (k0_chk517 v492) := fun v492 => decidable_of_iff' _ (Iff.of_eq (k0_chk517.eq_1 v492))
theorem k0_idx517_inb : ∀ (v492 : IVec S16 32) (k0_hw517 : k0_chk517 v492), ∀ a x, ((![v492] : Fin 1 → IVec S16 32) a x).toNat < S100000.size a := fun v492 k0_hw517 => k0_hw517
def k0_off599 (k0_t50 : Fin k0_t50_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v494 : BitVec 32 := Scalar.addi v461 c64_i32_293
  let v495 : Index := Scalar.indexCast v494
  ![v495.toNat]

def k0_chk518 (v499 : IVec S16 32) : Prop :=
  (∀ a x, ((![v499] : Fin 1 → IVec S16 32) a x).toNat < S100000.size a)
instance k0_chk518.dec : ∀ (v499 : IVec S16 32), Decidable (k0_chk518 v499) := fun v499 => decidable_of_iff' _ (Iff.of_eq (k0_chk518.eq_1 v499))
theorem k0_idx518_inb : ∀ (v499 : IVec S16 32) (k0_hw518 : k0_chk518 v499), ∀ a x, ((![v499] : Fin 1 → IVec S16 32) a x).toNat < S100000.size a := fun v499 k0_hw518 => k0_hw518
def k0_off600 (k0_t50 : Fin k0_t50_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v501 : BitVec 32 := Scalar.addi v461 c80_i32_294
  let v502 : Index := Scalar.indexCast v501
  ![v502.toNat]

def k0_chk519 (v506 : IVec S16 32) : Prop :=
  (∀ a x, ((![v506] : Fin 1 → IVec S16 32) a x).toNat < S100000.size a)
instance k0_chk519.dec : ∀ (v506 : IVec S16 32), Decidable (k0_chk519 v506) := fun v506 => decidable_of_iff' _ (Iff.of_eq (k0_chk519.eq_1 v506))
theorem k0_idx519_inb : ∀ (v506 : IVec S16 32) (k0_hw519 : k0_chk519 v506), ∀ a x, ((![v506] : Fin 1 → IVec S16 32) a x).toNat < S100000.size a := fun v506 k0_hw519 => k0_hw519
def k0_off601 (k0_t50 : Fin k0_t50_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v508 : BitVec 32 := Scalar.addi v461 c96_i32_295
  let v509 : Index := Scalar.indexCast v508
  ![v509.toNat]

def k0_chk520 (v513 : IVec S16 32) : Prop :=
  (∀ a x, ((![v513] : Fin 1 → IVec S16 32) a x).toNat < S100000.size a)
instance k0_chk520.dec : ∀ (v513 : IVec S16 32), Decidable (k0_chk520 v513) := fun v513 => decidable_of_iff' _ (Iff.of_eq (k0_chk520.eq_1 v513))
theorem k0_idx520_inb : ∀ (v513 : IVec S16 32) (k0_hw520 : k0_chk520 v513), ∀ a x, ((![v513] : Fin 1 → IVec S16 32) a x).toNat < S100000.size a := fun v513 k0_hw520 => k0_hw520
def k0_off602 (k0_t50 : Fin k0_t50_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v515 : BitVec 32 := Scalar.addi v461 c112_i32_296
  let v516 : Index := Scalar.indexCast v515
  ![v516.toNat]

def k0_chk521 (v520 : IVec S16 32) : Prop :=
  (∀ a x, ((![v520] : Fin 1 → IVec S16 32) a x).toNat < S100000.size a)
instance k0_chk521.dec : ∀ (v520 : IVec S16 32), Decidable (k0_chk521 v520) := fun v520 => decidable_of_iff' _ (Iff.of_eq (k0_chk521.eq_1 v520))
theorem k0_idx521_inb : ∀ (v520 : IVec S16 32) (k0_hw521 : k0_chk521 v520), ∀ a x, ((![v520] : Fin 1 → IVec S16 32) a x).toNat < S100000.size a := fun v520 k0_hw521 => k0_hw521
def k0_off603 (k0_t50 : Fin k0_t50_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v522 : BitVec 32 := Scalar.addi v461 c128_i32_297
  let v523 : Index := Scalar.indexCast v522
  ![v523.toNat]

def k0_chk522 (v527 : IVec S16 32) : Prop :=
  (∀ a x, ((![v527] : Fin 1 → IVec S16 32) a x).toNat < S100000.size a)
instance k0_chk522.dec : ∀ (v527 : IVec S16 32), Decidable (k0_chk522 v527) := fun v527 => decidable_of_iff' _ (Iff.of_eq (k0_chk522.eq_1 v527))
theorem k0_idx522_inb : ∀ (v527 : IVec S16 32) (k0_hw522 : k0_chk522 v527), ∀ a x, ((![v527] : Fin 1 → IVec S16 32) a x).toNat < S100000.size a := fun v527 k0_hw522 => k0_hw522
def k0_off604 (k0_t50 : Fin k0_t50_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v529 : BitVec 32 := Scalar.addi v461 c144_i32_299
  let v530 : Index := Scalar.indexCast v529
  ![v530.toNat]

def k0_chk523 (v534 : IVec S16 32) : Prop :=
  (∀ a x, ((![v534] : Fin 1 → IVec S16 32) a x).toNat < S100000.size a)
instance k0_chk523.dec : ∀ (v534 : IVec S16 32), Decidable (k0_chk523 v534) := fun v534 => decidable_of_iff' _ (Iff.of_eq (k0_chk523.eq_1 v534))
theorem k0_idx523_inb : ∀ (v534 : IVec S16 32) (k0_hw523 : k0_chk523 v534), ∀ a x, ((![v534] : Fin 1 → IVec S16 32) a x).toNat < S100000.size a := fun v534 k0_hw523 => k0_hw523
def k0_off605 (k0_t50 : Fin k0_t50_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v536 : BitVec 32 := Scalar.addi v461 c160_i32_300
  let v537 : Index := Scalar.indexCast v536
  ![v537.toNat]

def k0_chk524 (v541 : IVec S16 32) : Prop :=
  (∀ a x, ((![v541] : Fin 1 → IVec S16 32) a x).toNat < S100000.size a)
instance k0_chk524.dec : ∀ (v541 : IVec S16 32), Decidable (k0_chk524 v541) := fun v541 => decidable_of_iff' _ (Iff.of_eq (k0_chk524.eq_1 v541))
theorem k0_idx524_inb : ∀ (v541 : IVec S16 32) (k0_hw524 : k0_chk524 v541), ∀ a x, ((![v541] : Fin 1 → IVec S16 32) a x).toNat < S100000.size a := fun v541 k0_hw524 => k0_hw524
def k0_off606 (k0_t50 : Fin k0_t50_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v543 : BitVec 32 := Scalar.addi v461 c176_i32_301
  let v544 : Index := Scalar.indexCast v543
  ![v544.toNat]

def k0_chk525 (v548 : IVec S16 32) : Prop :=
  (∀ a x, ((![v548] : Fin 1 → IVec S16 32) a x).toNat < S100000.size a)
instance k0_chk525.dec : ∀ (v548 : IVec S16 32), Decidable (k0_chk525 v548) := fun v548 => decidable_of_iff' _ (Iff.of_eq (k0_chk525.eq_1 v548))
theorem k0_idx525_inb : ∀ (v548 : IVec S16 32) (k0_hw525 : k0_chk525 v548), ∀ a x, ((![v548] : Fin 1 → IVec S16 32) a x).toNat < S100000.size a := fun v548 k0_hw525 => k0_hw525
def k0_off607 (k0_t50 : Fin k0_t50_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v550 : BitVec 32 := Scalar.addi v461 c192_i32_302
  let v551 : Index := Scalar.indexCast v550
  ![v551.toNat]

def k0_chk526 (v555 : IVec S16 32) : Prop :=
  (∀ a x, ((![v555] : Fin 1 → IVec S16 32) a x).toNat < S100000.size a)
instance k0_chk526.dec : ∀ (v555 : IVec S16 32), Decidable (k0_chk526 v555) := fun v555 => decidable_of_iff' _ (Iff.of_eq (k0_chk526.eq_1 v555))
theorem k0_idx526_inb : ∀ (v555 : IVec S16 32) (k0_hw526 : k0_chk526 v555), ∀ a x, ((![v555] : Fin 1 → IVec S16 32) a x).toNat < S100000.size a := fun v555 k0_hw526 => k0_hw526
def k0_off608 (k0_t50 : Fin k0_t50_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v557 : BitVec 32 := Scalar.addi v461 c208_i32_303
  let v558 : Index := Scalar.indexCast v557
  ![v558.toNat]

def k0_chk527 (v562 : IVec S16 32) : Prop :=
  (∀ a x, ((![v562] : Fin 1 → IVec S16 32) a x).toNat < S100000.size a)
instance k0_chk527.dec : ∀ (v562 : IVec S16 32), Decidable (k0_chk527 v562) := fun v562 => decidable_of_iff' _ (Iff.of_eq (k0_chk527.eq_1 v562))
theorem k0_idx527_inb : ∀ (v562 : IVec S16 32) (k0_hw527 : k0_chk527 v562), ∀ a x, ((![v562] : Fin 1 → IVec S16 32) a x).toNat < S100000.size a := fun v562 k0_hw527 => k0_hw527
def k0_off609 (k0_t50 : Fin k0_t50_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let v564 : BitVec 32 := Scalar.addi v461 c224_i32_304
  let v565 : Index := Scalar.indexCast v564
  ![v565.toNat]

def k0_chk528 (v569 : IVec S16 32) : Prop :=
  (∀ a x, ((![v569] : Fin 1 → IVec S16 32) a x).toNat < S100000.size a)
instance k0_chk528.dec : ∀ (v569 : IVec S16 32), Decidable (k0_chk528 v569) := fun v569 => decidable_of_iff' _ (Iff.of_eq (k0_chk528.eq_1 v569))
theorem k0_idx528_inb : ∀ (v569 : IVec S16 32) (k0_hw528 : k0_chk528 v569), ∀ a x, ((![v569] : Fin 1 → IVec S16 32) a x).toNat < S100000.size a := fun v569 k0_hw528 => k0_hw528
def k0_off610 (k0_t50 : Fin k0_t50_loop.trips) : Fin 1 → Nat :=
  let c0_i32_275 : BitVec 32 := 0#32
  let c1_i32_277 : BitVec 32 := 1#32
  let arg36 : BitVec 32 := Scf.iv c0_i32_275 c1_i32_277 k0_t50
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off611 (i : grid0.Coords) (k0_t49 : Fin (k0_t49_loop i).trips) : Fin 2 → Nat :=
  let c288_i32_279 : BitVec 32 := 288#32
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c1_i32_102 : BitVec 32 := 1#32
  let arg34 : BitVec 32 := Scf.iv v169 c1_i32_102 k0_t49
  let v457 : BitVec 32 := Scalar.addi c288_i32_279 arg34
  let c0_i32_287_r67 : BitVec 32 := 0#32
  ![v457.toNat, 0]
@[reducible] def k0_t51_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off612 (k0_t51 : Fin k0_t51_loop.trips) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk529 (v464 : IVec S16 32) : Prop :=
  (∀ a x, ((![v464] : Fin 1 → IVec S16 32) a x).toNat < S100000.size a)
instance k0_chk529.dec : ∀ (v464 : IVec S16 32), Decidable (k0_chk529 v464) := fun v464 => decidable_of_iff' _ (Iff.of_eq (k0_chk529.eq_1 v464))
theorem k0_idx529_inb : ∀ (v464 : IVec S16 32) (k0_hw529 : k0_chk529 v464), ∀ a x, ((![v464] : Fin 1 → IVec S16 32) a x).toNat < S100000.size a := fun v464 k0_hw529 => k0_hw529
def k0_off613 (k0_t51 : Fin k0_t51_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v466 : BitVec 32 := Scalar.addi v461 c0_i32_288
  let v467 : Index := Scalar.indexCast v466
  ![v467.toNat]

def k0_chk530 (v471 : IVec S16 32) : Prop :=
  (∀ a x, ((![v471] : Fin 1 → IVec S16 32) a x).toNat < S100000.size a)
instance k0_chk530.dec : ∀ (v471 : IVec S16 32), Decidable (k0_chk530 v471) := fun v471 => decidable_of_iff' _ (Iff.of_eq (k0_chk530.eq_1 v471))
theorem k0_idx530_inb : ∀ (v471 : IVec S16 32) (k0_hw530 : k0_chk530 v471), ∀ a x, ((![v471] : Fin 1 → IVec S16 32) a x).toNat < S100000.size a := fun v471 k0_hw530 => k0_hw530
def k0_off614 (k0_t51 : Fin k0_t51_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v473 : BitVec 32 := Scalar.addi v461 c16_i32_289
  let v474 : Index := Scalar.indexCast v473
  ![v474.toNat]

def k0_chk531 (v478 : IVec S16 32) : Prop :=
  (∀ a x, ((![v478] : Fin 1 → IVec S16 32) a x).toNat < S100000.size a)
instance k0_chk531.dec : ∀ (v478 : IVec S16 32), Decidable (k0_chk531 v478) := fun v478 => decidable_of_iff' _ (Iff.of_eq (k0_chk531.eq_1 v478))
theorem k0_idx531_inb : ∀ (v478 : IVec S16 32) (k0_hw531 : k0_chk531 v478), ∀ a x, ((![v478] : Fin 1 → IVec S16 32) a x).toNat < S100000.size a := fun v478 k0_hw531 => k0_hw531
def k0_off615 (k0_t51 : Fin k0_t51_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v480 : BitVec 32 := Scalar.addi v461 c32_i32_291
  let v481 : Index := Scalar.indexCast v480
  ![v481.toNat]

def k0_chk532 (v485 : IVec S16 32) : Prop :=
  (∀ a x, ((![v485] : Fin 1 → IVec S16 32) a x).toNat < S100000.size a)
instance k0_chk532.dec : ∀ (v485 : IVec S16 32), Decidable (k0_chk532 v485) := fun v485 => decidable_of_iff' _ (Iff.of_eq (k0_chk532.eq_1 v485))
theorem k0_idx532_inb : ∀ (v485 : IVec S16 32) (k0_hw532 : k0_chk532 v485), ∀ a x, ((![v485] : Fin 1 → IVec S16 32) a x).toNat < S100000.size a := fun v485 k0_hw532 => k0_hw532
def k0_off616 (k0_t51 : Fin k0_t51_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v487 : BitVec 32 := Scalar.addi v461 c48_i32_292
  let v488 : Index := Scalar.indexCast v487
  ![v488.toNat]

def k0_chk533 (v492 : IVec S16 32) : Prop :=
  (∀ a x, ((![v492] : Fin 1 → IVec S16 32) a x).toNat < S100000.size a)
instance k0_chk533.dec : ∀ (v492 : IVec S16 32), Decidable (k0_chk533 v492) := fun v492 => decidable_of_iff' _ (Iff.of_eq (k0_chk533.eq_1 v492))
theorem k0_idx533_inb : ∀ (v492 : IVec S16 32) (k0_hw533 : k0_chk533 v492), ∀ a x, ((![v492] : Fin 1 → IVec S16 32) a x).toNat < S100000.size a := fun v492 k0_hw533 => k0_hw533
def k0_off617 (k0_t51 : Fin k0_t51_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v494 : BitVec 32 := Scalar.addi v461 c64_i32_293
  let v495 : Index := Scalar.indexCast v494
  ![v495.toNat]

def k0_chk534 (v499 : IVec S16 32) : Prop :=
  (∀ a x, ((![v499] : Fin 1 → IVec S16 32) a x).toNat < S100000.size a)
instance k0_chk534.dec : ∀ (v499 : IVec S16 32), Decidable (k0_chk534 v499) := fun v499 => decidable_of_iff' _ (Iff.of_eq (k0_chk534.eq_1 v499))
theorem k0_idx534_inb : ∀ (v499 : IVec S16 32) (k0_hw534 : k0_chk534 v499), ∀ a x, ((![v499] : Fin 1 → IVec S16 32) a x).toNat < S100000.size a := fun v499 k0_hw534 => k0_hw534
def k0_off618 (k0_t51 : Fin k0_t51_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v501 : BitVec 32 := Scalar.addi v461 c80_i32_294
  let v502 : Index := Scalar.indexCast v501
  ![v502.toNat]

def k0_chk535 (v506 : IVec S16 32) : Prop :=
  (∀ a x, ((![v506] : Fin 1 → IVec S16 32) a x).toNat < S100000.size a)
instance k0_chk535.dec : ∀ (v506 : IVec S16 32), Decidable (k0_chk535 v506) := fun v506 => decidable_of_iff' _ (Iff.of_eq (k0_chk535.eq_1 v506))
theorem k0_idx535_inb : ∀ (v506 : IVec S16 32) (k0_hw535 : k0_chk535 v506), ∀ a x, ((![v506] : Fin 1 → IVec S16 32) a x).toNat < S100000.size a := fun v506 k0_hw535 => k0_hw535
def k0_off619 (k0_t51 : Fin k0_t51_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v508 : BitVec 32 := Scalar.addi v461 c96_i32_295
  let v509 : Index := Scalar.indexCast v508
  ![v509.toNat]

def k0_chk536 (v513 : IVec S16 32) : Prop :=
  (∀ a x, ((![v513] : Fin 1 → IVec S16 32) a x).toNat < S100000.size a)
instance k0_chk536.dec : ∀ (v513 : IVec S16 32), Decidable (k0_chk536 v513) := fun v513 => decidable_of_iff' _ (Iff.of_eq (k0_chk536.eq_1 v513))
theorem k0_idx536_inb : ∀ (v513 : IVec S16 32) (k0_hw536 : k0_chk536 v513), ∀ a x, ((![v513] : Fin 1 → IVec S16 32) a x).toNat < S100000.size a := fun v513 k0_hw536 => k0_hw536
def k0_off620 (k0_t51 : Fin k0_t51_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v515 : BitVec 32 := Scalar.addi v461 c112_i32_296
  let v516 : Index := Scalar.indexCast v515
  ![v516.toNat]

def k0_chk537 (v520 : IVec S16 32) : Prop :=
  (∀ a x, ((![v520] : Fin 1 → IVec S16 32) a x).toNat < S100000.size a)
instance k0_chk537.dec : ∀ (v520 : IVec S16 32), Decidable (k0_chk537 v520) := fun v520 => decidable_of_iff' _ (Iff.of_eq (k0_chk537.eq_1 v520))
theorem k0_idx537_inb : ∀ (v520 : IVec S16 32) (k0_hw537 : k0_chk537 v520), ∀ a x, ((![v520] : Fin 1 → IVec S16 32) a x).toNat < S100000.size a := fun v520 k0_hw537 => k0_hw537
def k0_off621 (k0_t51 : Fin k0_t51_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v522 : BitVec 32 := Scalar.addi v461 c128_i32_297
  let v523 : Index := Scalar.indexCast v522
  ![v523.toNat]

def k0_chk538 (v527 : IVec S16 32) : Prop :=
  (∀ a x, ((![v527] : Fin 1 → IVec S16 32) a x).toNat < S100000.size a)
instance k0_chk538.dec : ∀ (v527 : IVec S16 32), Decidable (k0_chk538 v527) := fun v527 => decidable_of_iff' _ (Iff.of_eq (k0_chk538.eq_1 v527))
theorem k0_idx538_inb : ∀ (v527 : IVec S16 32) (k0_hw538 : k0_chk538 v527), ∀ a x, ((![v527] : Fin 1 → IVec S16 32) a x).toNat < S100000.size a := fun v527 k0_hw538 => k0_hw538
def k0_off622 (k0_t51 : Fin k0_t51_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v529 : BitVec 32 := Scalar.addi v461 c144_i32_299
  let v530 : Index := Scalar.indexCast v529
  ![v530.toNat]

def k0_chk539 (v534 : IVec S16 32) : Prop :=
  (∀ a x, ((![v534] : Fin 1 → IVec S16 32) a x).toNat < S100000.size a)
instance k0_chk539.dec : ∀ (v534 : IVec S16 32), Decidable (k0_chk539 v534) := fun v534 => decidable_of_iff' _ (Iff.of_eq (k0_chk539.eq_1 v534))
theorem k0_idx539_inb : ∀ (v534 : IVec S16 32) (k0_hw539 : k0_chk539 v534), ∀ a x, ((![v534] : Fin 1 → IVec S16 32) a x).toNat < S100000.size a := fun v534 k0_hw539 => k0_hw539
def k0_off623 (k0_t51 : Fin k0_t51_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v536 : BitVec 32 := Scalar.addi v461 c160_i32_300
  let v537 : Index := Scalar.indexCast v536
  ![v537.toNat]

def k0_chk540 (v541 : IVec S16 32) : Prop :=
  (∀ a x, ((![v541] : Fin 1 → IVec S16 32) a x).toNat < S100000.size a)
instance k0_chk540.dec : ∀ (v541 : IVec S16 32), Decidable (k0_chk540 v541) := fun v541 => decidable_of_iff' _ (Iff.of_eq (k0_chk540.eq_1 v541))
theorem k0_idx540_inb : ∀ (v541 : IVec S16 32) (k0_hw540 : k0_chk540 v541), ∀ a x, ((![v541] : Fin 1 → IVec S16 32) a x).toNat < S100000.size a := fun v541 k0_hw540 => k0_hw540
def k0_off624 (k0_t51 : Fin k0_t51_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v543 : BitVec 32 := Scalar.addi v461 c176_i32_301
  let v544 : Index := Scalar.indexCast v543
  ![v544.toNat]

def k0_chk541 (v548 : IVec S16 32) : Prop :=
  (∀ a x, ((![v548] : Fin 1 → IVec S16 32) a x).toNat < S100000.size a)
instance k0_chk541.dec : ∀ (v548 : IVec S16 32), Decidable (k0_chk541 v548) := fun v548 => decidable_of_iff' _ (Iff.of_eq (k0_chk541.eq_1 v548))
theorem k0_idx541_inb : ∀ (v548 : IVec S16 32) (k0_hw541 : k0_chk541 v548), ∀ a x, ((![v548] : Fin 1 → IVec S16 32) a x).toNat < S100000.size a := fun v548 k0_hw541 => k0_hw541
def k0_off625 (k0_t51 : Fin k0_t51_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v550 : BitVec 32 := Scalar.addi v461 c192_i32_302
  let v551 : Index := Scalar.indexCast v550
  ![v551.toNat]

def k0_chk542 (v555 : IVec S16 32) : Prop :=
  (∀ a x, ((![v555] : Fin 1 → IVec S16 32) a x).toNat < S100000.size a)
instance k0_chk542.dec : ∀ (v555 : IVec S16 32), Decidable (k0_chk542 v555) := fun v555 => decidable_of_iff' _ (Iff.of_eq (k0_chk542.eq_1 v555))
theorem k0_idx542_inb : ∀ (v555 : IVec S16 32) (k0_hw542 : k0_chk542 v555), ∀ a x, ((![v555] : Fin 1 → IVec S16 32) a x).toNat < S100000.size a := fun v555 k0_hw542 => k0_hw542
def k0_off626 (k0_t51 : Fin k0_t51_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v557 : BitVec 32 := Scalar.addi v461 c208_i32_303
  let v558 : Index := Scalar.indexCast v557
  ![v558.toNat]

def k0_chk543 (v562 : IVec S16 32) : Prop :=
  (∀ a x, ((![v562] : Fin 1 → IVec S16 32) a x).toNat < S100000.size a)
instance k0_chk543.dec : ∀ (v562 : IVec S16 32), Decidable (k0_chk543 v562) := fun v562 => decidable_of_iff' _ (Iff.of_eq (k0_chk543.eq_1 v562))
theorem k0_idx543_inb : ∀ (v562 : IVec S16 32) (k0_hw543 : k0_chk543 v562), ∀ a x, ((![v562] : Fin 1 → IVec S16 32) a x).toNat < S100000.size a := fun v562 k0_hw543 => k0_hw543
def k0_off627 (k0_t51 : Fin k0_t51_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let v564 : BitVec 32 := Scalar.addi v461 c224_i32_304
  let v565 : Index := Scalar.indexCast v564
  ![v565.toNat]

def k0_chk544 (v569 : IVec S16 32) : Prop :=
  (∀ a x, ((![v569] : Fin 1 → IVec S16 32) a x).toNat < S100000.size a)
instance k0_chk544.dec : ∀ (v569 : IVec S16 32), Decidable (k0_chk544 v569) := fun v569 => decidable_of_iff' _ (Iff.of_eq (k0_chk544.eq_1 v569))
theorem k0_idx544_inb : ∀ (v569 : IVec S16 32) (k0_hw544 : k0_chk544 v569), ∀ a x, ((![v569] : Fin 1 → IVec S16 32) a x).toNat < S100000.size a := fun v569 k0_hw544 => k0_hw544
def k0_off628 (k0_t51 : Fin k0_t51_loop.trips) : Fin 1 → Nat :=
  let c0_i32_281 : BitVec 32 := 0#32
  let c1_i32_283 : BitVec 32 := 1#32
  let arg36 : BitVec 32 := Scf.iv c0_i32_281 c1_i32_283 k0_t51
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off629 (i : grid0.Coords) (k0_t49 : Fin (k0_t49_loop i).trips) : Fin 2 → Nat :=
  let c288_i32_285 : BitVec 32 := 288#32
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c1_i32_102 : BitVec 32 := 1#32
  let arg34 : BitVec 32 := Scf.iv v169 c1_i32_102 k0_t49
  let v460 : BitVec 32 := Scalar.addi c288_i32_285 arg34
  let c8192_i32_r68 : BitVec 32 := 8192#32
  ![v460.toNat, 8192]
@[reducible] def k0_t52_loop (i : grid0.Coords) : Scf.Loop 32 :=
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c36_i32_98 : BitVec 32 := 36#32
  let c0_i32_97 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_96 : BitVec 32 := 288#32
  let v170 : BitVec 32 := Scalar.subi v38 c288_i32_96
  let v171 : BitVec 32 := Scalar.maxsi c0_i32_97 v170
  let v172 : BitVec 32 := Scalar.minsi c36_i32_98 v171
  let v176 : BitVec 32 := Scalar.subi v172 v169
  let c1_i32_101 : BitVec 32 := 1#32
  let v178 : BitVec 32 := Scalar.divsi v176 c1_i32_101
  let v179 : BitVec 32 := Scalar.muli v178 c1_i32_101
  let v180 : BitVec 32 := Scalar.addi v169 v179
  let v177 : BitVec 32 := Scalar.addi v169 v176
  let c1_i32_103 : BitVec 32 := 1#32
  ⟨v180, v177, c1_i32_103⟩
def k0_off630 (i : grid0.Coords) (k0_t52 : Fin (k0_t52_loop i).trips) : Fin 2 → Nat :=
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c36_i32_98 : BitVec 32 := 36#32
  let c0_i32_97 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_96 : BitVec 32 := 288#32
  let v170 : BitVec 32 := Scalar.subi v38 c288_i32_96
  let v171 : BitVec 32 := Scalar.maxsi c0_i32_97 v170
  let v172 : BitVec 32 := Scalar.minsi c36_i32_98 v171
  let v176 : BitVec 32 := Scalar.subi v172 v169
  let c1_i32_101 : BitVec 32 := 1#32
  let v178 : BitVec 32 := Scalar.divsi v176 c1_i32_101
  let v179 : BitVec 32 := Scalar.muli v178 c1_i32_101
  let v180 : BitVec 32 := Scalar.addi v169 v179
  let c1_i32_103 : BitVec 32 := 1#32
  let arg34 : BitVec 32 := Scf.iv v180 c1_i32_103 k0_t52
  let c0_i32_287_r69 : BitVec 32 := 0#32
  ![arg34.toNat, 0]
@[reducible] def k0_t53_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off631 (k0_t53 : Fin k0_t53_loop.trips) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk545 (v464 : IVec S16 32) : Prop :=
  (∀ a x, ((![v464] : Fin 1 → IVec S16 32) a x).toNat < S100000.size a)
instance k0_chk545.dec : ∀ (v464 : IVec S16 32), Decidable (k0_chk545 v464) := fun v464 => decidable_of_iff' _ (Iff.of_eq (k0_chk545.eq_1 v464))
theorem k0_idx545_inb : ∀ (v464 : IVec S16 32) (k0_hw545 : k0_chk545 v464), ∀ a x, ((![v464] : Fin 1 → IVec S16 32) a x).toNat < S100000.size a := fun v464 k0_hw545 => k0_hw545
def k0_off632 (k0_t53 : Fin k0_t53_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v466 : BitVec 32 := Scalar.addi v461 c0_i32_288
  let v467 : Index := Scalar.indexCast v466
  ![v467.toNat]

def k0_chk546 (v471 : IVec S16 32) : Prop :=
  (∀ a x, ((![v471] : Fin 1 → IVec S16 32) a x).toNat < S100000.size a)
instance k0_chk546.dec : ∀ (v471 : IVec S16 32), Decidable (k0_chk546 v471) := fun v471 => decidable_of_iff' _ (Iff.of_eq (k0_chk546.eq_1 v471))
theorem k0_idx546_inb : ∀ (v471 : IVec S16 32) (k0_hw546 : k0_chk546 v471), ∀ a x, ((![v471] : Fin 1 → IVec S16 32) a x).toNat < S100000.size a := fun v471 k0_hw546 => k0_hw546
def k0_off633 (k0_t53 : Fin k0_t53_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v473 : BitVec 32 := Scalar.addi v461 c16_i32_289
  let v474 : Index := Scalar.indexCast v473
  ![v474.toNat]

def k0_chk547 (v478 : IVec S16 32) : Prop :=
  (∀ a x, ((![v478] : Fin 1 → IVec S16 32) a x).toNat < S100000.size a)
instance k0_chk547.dec : ∀ (v478 : IVec S16 32), Decidable (k0_chk547 v478) := fun v478 => decidable_of_iff' _ (Iff.of_eq (k0_chk547.eq_1 v478))
theorem k0_idx547_inb : ∀ (v478 : IVec S16 32) (k0_hw547 : k0_chk547 v478), ∀ a x, ((![v478] : Fin 1 → IVec S16 32) a x).toNat < S100000.size a := fun v478 k0_hw547 => k0_hw547
def k0_off634 (k0_t53 : Fin k0_t53_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v480 : BitVec 32 := Scalar.addi v461 c32_i32_291
  let v481 : Index := Scalar.indexCast v480
  ![v481.toNat]

def k0_chk548 (v485 : IVec S16 32) : Prop :=
  (∀ a x, ((![v485] : Fin 1 → IVec S16 32) a x).toNat < S100000.size a)
instance k0_chk548.dec : ∀ (v485 : IVec S16 32), Decidable (k0_chk548 v485) := fun v485 => decidable_of_iff' _ (Iff.of_eq (k0_chk548.eq_1 v485))
theorem k0_idx548_inb : ∀ (v485 : IVec S16 32) (k0_hw548 : k0_chk548 v485), ∀ a x, ((![v485] : Fin 1 → IVec S16 32) a x).toNat < S100000.size a := fun v485 k0_hw548 => k0_hw548
def k0_off635 (k0_t53 : Fin k0_t53_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v487 : BitVec 32 := Scalar.addi v461 c48_i32_292
  let v488 : Index := Scalar.indexCast v487
  ![v488.toNat]

def k0_chk549 (v492 : IVec S16 32) : Prop :=
  (∀ a x, ((![v492] : Fin 1 → IVec S16 32) a x).toNat < S100000.size a)
instance k0_chk549.dec : ∀ (v492 : IVec S16 32), Decidable (k0_chk549 v492) := fun v492 => decidable_of_iff' _ (Iff.of_eq (k0_chk549.eq_1 v492))
theorem k0_idx549_inb : ∀ (v492 : IVec S16 32) (k0_hw549 : k0_chk549 v492), ∀ a x, ((![v492] : Fin 1 → IVec S16 32) a x).toNat < S100000.size a := fun v492 k0_hw549 => k0_hw549
def k0_off636 (k0_t53 : Fin k0_t53_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v494 : BitVec 32 := Scalar.addi v461 c64_i32_293
  let v495 : Index := Scalar.indexCast v494
  ![v495.toNat]

def k0_chk550 (v499 : IVec S16 32) : Prop :=
  (∀ a x, ((![v499] : Fin 1 → IVec S16 32) a x).toNat < S100000.size a)
instance k0_chk550.dec : ∀ (v499 : IVec S16 32), Decidable (k0_chk550 v499) := fun v499 => decidable_of_iff' _ (Iff.of_eq (k0_chk550.eq_1 v499))
theorem k0_idx550_inb : ∀ (v499 : IVec S16 32) (k0_hw550 : k0_chk550 v499), ∀ a x, ((![v499] : Fin 1 → IVec S16 32) a x).toNat < S100000.size a := fun v499 k0_hw550 => k0_hw550
def k0_off637 (k0_t53 : Fin k0_t53_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v501 : BitVec 32 := Scalar.addi v461 c80_i32_294
  let v502 : Index := Scalar.indexCast v501
  ![v502.toNat]

def k0_chk551 (v506 : IVec S16 32) : Prop :=
  (∀ a x, ((![v506] : Fin 1 → IVec S16 32) a x).toNat < S100000.size a)
instance k0_chk551.dec : ∀ (v506 : IVec S16 32), Decidable (k0_chk551 v506) := fun v506 => decidable_of_iff' _ (Iff.of_eq (k0_chk551.eq_1 v506))
theorem k0_idx551_inb : ∀ (v506 : IVec S16 32) (k0_hw551 : k0_chk551 v506), ∀ a x, ((![v506] : Fin 1 → IVec S16 32) a x).toNat < S100000.size a := fun v506 k0_hw551 => k0_hw551
def k0_off638 (k0_t53 : Fin k0_t53_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v508 : BitVec 32 := Scalar.addi v461 c96_i32_295
  let v509 : Index := Scalar.indexCast v508
  ![v509.toNat]

def k0_chk552 (v513 : IVec S16 32) : Prop :=
  (∀ a x, ((![v513] : Fin 1 → IVec S16 32) a x).toNat < S100000.size a)
instance k0_chk552.dec : ∀ (v513 : IVec S16 32), Decidable (k0_chk552 v513) := fun v513 => decidable_of_iff' _ (Iff.of_eq (k0_chk552.eq_1 v513))
theorem k0_idx552_inb : ∀ (v513 : IVec S16 32) (k0_hw552 : k0_chk552 v513), ∀ a x, ((![v513] : Fin 1 → IVec S16 32) a x).toNat < S100000.size a := fun v513 k0_hw552 => k0_hw552
def k0_off639 (k0_t53 : Fin k0_t53_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v515 : BitVec 32 := Scalar.addi v461 c112_i32_296
  let v516 : Index := Scalar.indexCast v515
  ![v516.toNat]

def k0_chk553 (v520 : IVec S16 32) : Prop :=
  (∀ a x, ((![v520] : Fin 1 → IVec S16 32) a x).toNat < S100000.size a)
instance k0_chk553.dec : ∀ (v520 : IVec S16 32), Decidable (k0_chk553 v520) := fun v520 => decidable_of_iff' _ (Iff.of_eq (k0_chk553.eq_1 v520))
theorem k0_idx553_inb : ∀ (v520 : IVec S16 32) (k0_hw553 : k0_chk553 v520), ∀ a x, ((![v520] : Fin 1 → IVec S16 32) a x).toNat < S100000.size a := fun v520 k0_hw553 => k0_hw553
def k0_off640 (k0_t53 : Fin k0_t53_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v522 : BitVec 32 := Scalar.addi v461 c128_i32_297
  let v523 : Index := Scalar.indexCast v522
  ![v523.toNat]

def k0_chk554 (v527 : IVec S16 32) : Prop :=
  (∀ a x, ((![v527] : Fin 1 → IVec S16 32) a x).toNat < S100000.size a)
instance k0_chk554.dec : ∀ (v527 : IVec S16 32), Decidable (k0_chk554 v527) := fun v527 => decidable_of_iff' _ (Iff.of_eq (k0_chk554.eq_1 v527))
theorem k0_idx554_inb : ∀ (v527 : IVec S16 32) (k0_hw554 : k0_chk554 v527), ∀ a x, ((![v527] : Fin 1 → IVec S16 32) a x).toNat < S100000.size a := fun v527 k0_hw554 => k0_hw554
def k0_off641 (k0_t53 : Fin k0_t53_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v529 : BitVec 32 := Scalar.addi v461 c144_i32_299
  let v530 : Index := Scalar.indexCast v529
  ![v530.toNat]

def k0_chk555 (v534 : IVec S16 32) : Prop :=
  (∀ a x, ((![v534] : Fin 1 → IVec S16 32) a x).toNat < S100000.size a)
instance k0_chk555.dec : ∀ (v534 : IVec S16 32), Decidable (k0_chk555 v534) := fun v534 => decidable_of_iff' _ (Iff.of_eq (k0_chk555.eq_1 v534))
theorem k0_idx555_inb : ∀ (v534 : IVec S16 32) (k0_hw555 : k0_chk555 v534), ∀ a x, ((![v534] : Fin 1 → IVec S16 32) a x).toNat < S100000.size a := fun v534 k0_hw555 => k0_hw555
def k0_off642 (k0_t53 : Fin k0_t53_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v536 : BitVec 32 := Scalar.addi v461 c160_i32_300
  let v537 : Index := Scalar.indexCast v536
  ![v537.toNat]

def k0_chk556 (v541 : IVec S16 32) : Prop :=
  (∀ a x, ((![v541] : Fin 1 → IVec S16 32) a x).toNat < S100000.size a)
instance k0_chk556.dec : ∀ (v541 : IVec S16 32), Decidable (k0_chk556 v541) := fun v541 => decidable_of_iff' _ (Iff.of_eq (k0_chk556.eq_1 v541))
theorem k0_idx556_inb : ∀ (v541 : IVec S16 32) (k0_hw556 : k0_chk556 v541), ∀ a x, ((![v541] : Fin 1 → IVec S16 32) a x).toNat < S100000.size a := fun v541 k0_hw556 => k0_hw556
def k0_off643 (k0_t53 : Fin k0_t53_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v543 : BitVec 32 := Scalar.addi v461 c176_i32_301
  let v544 : Index := Scalar.indexCast v543
  ![v544.toNat]

def k0_chk557 (v548 : IVec S16 32) : Prop :=
  (∀ a x, ((![v548] : Fin 1 → IVec S16 32) a x).toNat < S100000.size a)
instance k0_chk557.dec : ∀ (v548 : IVec S16 32), Decidable (k0_chk557 v548) := fun v548 => decidable_of_iff' _ (Iff.of_eq (k0_chk557.eq_1 v548))
theorem k0_idx557_inb : ∀ (v548 : IVec S16 32) (k0_hw557 : k0_chk557 v548), ∀ a x, ((![v548] : Fin 1 → IVec S16 32) a x).toNat < S100000.size a := fun v548 k0_hw557 => k0_hw557
def k0_off644 (k0_t53 : Fin k0_t53_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v550 : BitVec 32 := Scalar.addi v461 c192_i32_302
  let v551 : Index := Scalar.indexCast v550
  ![v551.toNat]

def k0_chk558 (v555 : IVec S16 32) : Prop :=
  (∀ a x, ((![v555] : Fin 1 → IVec S16 32) a x).toNat < S100000.size a)
instance k0_chk558.dec : ∀ (v555 : IVec S16 32), Decidable (k0_chk558 v555) := fun v555 => decidable_of_iff' _ (Iff.of_eq (k0_chk558.eq_1 v555))
theorem k0_idx558_inb : ∀ (v555 : IVec S16 32) (k0_hw558 : k0_chk558 v555), ∀ a x, ((![v555] : Fin 1 → IVec S16 32) a x).toNat < S100000.size a := fun v555 k0_hw558 => k0_hw558
def k0_off645 (k0_t53 : Fin k0_t53_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v557 : BitVec 32 := Scalar.addi v461 c208_i32_303
  let v558 : Index := Scalar.indexCast v557
  ![v558.toNat]

def k0_chk559 (v562 : IVec S16 32) : Prop :=
  (∀ a x, ((![v562] : Fin 1 → IVec S16 32) a x).toNat < S100000.size a)
instance k0_chk559.dec : ∀ (v562 : IVec S16 32), Decidable (k0_chk559 v562) := fun v562 => decidable_of_iff' _ (Iff.of_eq (k0_chk559.eq_1 v562))
theorem k0_idx559_inb : ∀ (v562 : IVec S16 32) (k0_hw559 : k0_chk559 v562), ∀ a x, ((![v562] : Fin 1 → IVec S16 32) a x).toNat < S100000.size a := fun v562 k0_hw559 => k0_hw559
def k0_off646 (k0_t53 : Fin k0_t53_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let v564 : BitVec 32 := Scalar.addi v461 c224_i32_304
  let v565 : Index := Scalar.indexCast v564
  ![v565.toNat]

def k0_chk560 (v569 : IVec S16 32) : Prop :=
  (∀ a x, ((![v569] : Fin 1 → IVec S16 32) a x).toNat < S100000.size a)
instance k0_chk560.dec : ∀ (v569 : IVec S16 32), Decidable (k0_chk560 v569) := fun v569 => decidable_of_iff' _ (Iff.of_eq (k0_chk560.eq_1 v569))
theorem k0_idx560_inb : ∀ (v569 : IVec S16 32) (k0_hw560 : k0_chk560 v569), ∀ a x, ((![v569] : Fin 1 → IVec S16 32) a x).toNat < S100000.size a := fun v569 k0_hw560 => k0_hw560
def k0_off647 (k0_t53 : Fin k0_t53_loop.trips) : Fin 1 → Nat :=
  let c0_i32_275 : BitVec 32 := 0#32
  let c1_i32_277 : BitVec 32 := 1#32
  let arg36 : BitVec 32 := Scf.iv c0_i32_275 c1_i32_277 k0_t53
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off648 (i : grid0.Coords) (k0_t52 : Fin (k0_t52_loop i).trips) : Fin 2 → Nat :=
  let c288_i32_279 : BitVec 32 := 288#32
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c36_i32_98 : BitVec 32 := 36#32
  let c0_i32_97 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_96 : BitVec 32 := 288#32
  let v170 : BitVec 32 := Scalar.subi v38 c288_i32_96
  let v171 : BitVec 32 := Scalar.maxsi c0_i32_97 v170
  let v172 : BitVec 32 := Scalar.minsi c36_i32_98 v171
  let v176 : BitVec 32 := Scalar.subi v172 v169
  let c1_i32_101 : BitVec 32 := 1#32
  let v178 : BitVec 32 := Scalar.divsi v176 c1_i32_101
  let v179 : BitVec 32 := Scalar.muli v178 c1_i32_101
  let v180 : BitVec 32 := Scalar.addi v169 v179
  let c1_i32_103 : BitVec 32 := 1#32
  let arg34 : BitVec 32 := Scf.iv v180 c1_i32_103 k0_t52
  let v457 : BitVec 32 := Scalar.addi c288_i32_279 arg34
  let c0_i32_287_r70 : BitVec 32 := 0#32
  ![v457.toNat, 0]
@[reducible] def k0_t54_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off649 (k0_t54 : Fin k0_t54_loop.trips) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk561 (v464 : IVec S16 32) : Prop :=
  (∀ a x, ((![v464] : Fin 1 → IVec S16 32) a x).toNat < S100000.size a)
instance k0_chk561.dec : ∀ (v464 : IVec S16 32), Decidable (k0_chk561 v464) := fun v464 => decidable_of_iff' _ (Iff.of_eq (k0_chk561.eq_1 v464))
theorem k0_idx561_inb : ∀ (v464 : IVec S16 32) (k0_hw561 : k0_chk561 v464), ∀ a x, ((![v464] : Fin 1 → IVec S16 32) a x).toNat < S100000.size a := fun v464 k0_hw561 => k0_hw561
def k0_off650 (k0_t54 : Fin k0_t54_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v466 : BitVec 32 := Scalar.addi v461 c0_i32_288
  let v467 : Index := Scalar.indexCast v466
  ![v467.toNat]

def k0_chk562 (v471 : IVec S16 32) : Prop :=
  (∀ a x, ((![v471] : Fin 1 → IVec S16 32) a x).toNat < S100000.size a)
instance k0_chk562.dec : ∀ (v471 : IVec S16 32), Decidable (k0_chk562 v471) := fun v471 => decidable_of_iff' _ (Iff.of_eq (k0_chk562.eq_1 v471))
theorem k0_idx562_inb : ∀ (v471 : IVec S16 32) (k0_hw562 : k0_chk562 v471), ∀ a x, ((![v471] : Fin 1 → IVec S16 32) a x).toNat < S100000.size a := fun v471 k0_hw562 => k0_hw562
def k0_off651 (k0_t54 : Fin k0_t54_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v473 : BitVec 32 := Scalar.addi v461 c16_i32_289
  let v474 : Index := Scalar.indexCast v473
  ![v474.toNat]

def k0_chk563 (v478 : IVec S16 32) : Prop :=
  (∀ a x, ((![v478] : Fin 1 → IVec S16 32) a x).toNat < S100000.size a)
instance k0_chk563.dec : ∀ (v478 : IVec S16 32), Decidable (k0_chk563 v478) := fun v478 => decidable_of_iff' _ (Iff.of_eq (k0_chk563.eq_1 v478))
theorem k0_idx563_inb : ∀ (v478 : IVec S16 32) (k0_hw563 : k0_chk563 v478), ∀ a x, ((![v478] : Fin 1 → IVec S16 32) a x).toNat < S100000.size a := fun v478 k0_hw563 => k0_hw563
def k0_off652 (k0_t54 : Fin k0_t54_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v480 : BitVec 32 := Scalar.addi v461 c32_i32_291
  let v481 : Index := Scalar.indexCast v480
  ![v481.toNat]

def k0_chk564 (v485 : IVec S16 32) : Prop :=
  (∀ a x, ((![v485] : Fin 1 → IVec S16 32) a x).toNat < S100000.size a)
instance k0_chk564.dec : ∀ (v485 : IVec S16 32), Decidable (k0_chk564 v485) := fun v485 => decidable_of_iff' _ (Iff.of_eq (k0_chk564.eq_1 v485))
theorem k0_idx564_inb : ∀ (v485 : IVec S16 32) (k0_hw564 : k0_chk564 v485), ∀ a x, ((![v485] : Fin 1 → IVec S16 32) a x).toNat < S100000.size a := fun v485 k0_hw564 => k0_hw564
def k0_off653 (k0_t54 : Fin k0_t54_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v487 : BitVec 32 := Scalar.addi v461 c48_i32_292
  let v488 : Index := Scalar.indexCast v487
  ![v488.toNat]

def k0_chk565 (v492 : IVec S16 32) : Prop :=
  (∀ a x, ((![v492] : Fin 1 → IVec S16 32) a x).toNat < S100000.size a)
instance k0_chk565.dec : ∀ (v492 : IVec S16 32), Decidable (k0_chk565 v492) := fun v492 => decidable_of_iff' _ (Iff.of_eq (k0_chk565.eq_1 v492))
theorem k0_idx565_inb : ∀ (v492 : IVec S16 32) (k0_hw565 : k0_chk565 v492), ∀ a x, ((![v492] : Fin 1 → IVec S16 32) a x).toNat < S100000.size a := fun v492 k0_hw565 => k0_hw565
def k0_off654 (k0_t54 : Fin k0_t54_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v494 : BitVec 32 := Scalar.addi v461 c64_i32_293
  let v495 : Index := Scalar.indexCast v494
  ![v495.toNat]

def k0_chk566 (v499 : IVec S16 32) : Prop :=
  (∀ a x, ((![v499] : Fin 1 → IVec S16 32) a x).toNat < S100000.size a)
instance k0_chk566.dec : ∀ (v499 : IVec S16 32), Decidable (k0_chk566 v499) := fun v499 => decidable_of_iff' _ (Iff.of_eq (k0_chk566.eq_1 v499))
theorem k0_idx566_inb : ∀ (v499 : IVec S16 32) (k0_hw566 : k0_chk566 v499), ∀ a x, ((![v499] : Fin 1 → IVec S16 32) a x).toNat < S100000.size a := fun v499 k0_hw566 => k0_hw566
def k0_off655 (k0_t54 : Fin k0_t54_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v501 : BitVec 32 := Scalar.addi v461 c80_i32_294
  let v502 : Index := Scalar.indexCast v501
  ![v502.toNat]

def k0_chk567 (v506 : IVec S16 32) : Prop :=
  (∀ a x, ((![v506] : Fin 1 → IVec S16 32) a x).toNat < S100000.size a)
instance k0_chk567.dec : ∀ (v506 : IVec S16 32), Decidable (k0_chk567 v506) := fun v506 => decidable_of_iff' _ (Iff.of_eq (k0_chk567.eq_1 v506))
theorem k0_idx567_inb : ∀ (v506 : IVec S16 32) (k0_hw567 : k0_chk567 v506), ∀ a x, ((![v506] : Fin 1 → IVec S16 32) a x).toNat < S100000.size a := fun v506 k0_hw567 => k0_hw567
def k0_off656 (k0_t54 : Fin k0_t54_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v508 : BitVec 32 := Scalar.addi v461 c96_i32_295
  let v509 : Index := Scalar.indexCast v508
  ![v509.toNat]

def k0_chk568 (v513 : IVec S16 32) : Prop :=
  (∀ a x, ((![v513] : Fin 1 → IVec S16 32) a x).toNat < S100000.size a)
instance k0_chk568.dec : ∀ (v513 : IVec S16 32), Decidable (k0_chk568 v513) := fun v513 => decidable_of_iff' _ (Iff.of_eq (k0_chk568.eq_1 v513))
theorem k0_idx568_inb : ∀ (v513 : IVec S16 32) (k0_hw568 : k0_chk568 v513), ∀ a x, ((![v513] : Fin 1 → IVec S16 32) a x).toNat < S100000.size a := fun v513 k0_hw568 => k0_hw568
def k0_off657 (k0_t54 : Fin k0_t54_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v515 : BitVec 32 := Scalar.addi v461 c112_i32_296
  let v516 : Index := Scalar.indexCast v515
  ![v516.toNat]

def k0_chk569 (v520 : IVec S16 32) : Prop :=
  (∀ a x, ((![v520] : Fin 1 → IVec S16 32) a x).toNat < S100000.size a)
instance k0_chk569.dec : ∀ (v520 : IVec S16 32), Decidable (k0_chk569 v520) := fun v520 => decidable_of_iff' _ (Iff.of_eq (k0_chk569.eq_1 v520))
theorem k0_idx569_inb : ∀ (v520 : IVec S16 32) (k0_hw569 : k0_chk569 v520), ∀ a x, ((![v520] : Fin 1 → IVec S16 32) a x).toNat < S100000.size a := fun v520 k0_hw569 => k0_hw569
def k0_off658 (k0_t54 : Fin k0_t54_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v522 : BitVec 32 := Scalar.addi v461 c128_i32_297
  let v523 : Index := Scalar.indexCast v522
  ![v523.toNat]

def k0_chk570 (v527 : IVec S16 32) : Prop :=
  (∀ a x, ((![v527] : Fin 1 → IVec S16 32) a x).toNat < S100000.size a)
instance k0_chk570.dec : ∀ (v527 : IVec S16 32), Decidable (k0_chk570 v527) := fun v527 => decidable_of_iff' _ (Iff.of_eq (k0_chk570.eq_1 v527))
theorem k0_idx570_inb : ∀ (v527 : IVec S16 32) (k0_hw570 : k0_chk570 v527), ∀ a x, ((![v527] : Fin 1 → IVec S16 32) a x).toNat < S100000.size a := fun v527 k0_hw570 => k0_hw570
def k0_off659 (k0_t54 : Fin k0_t54_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v529 : BitVec 32 := Scalar.addi v461 c144_i32_299
  let v530 : Index := Scalar.indexCast v529
  ![v530.toNat]

def k0_chk571 (v534 : IVec S16 32) : Prop :=
  (∀ a x, ((![v534] : Fin 1 → IVec S16 32) a x).toNat < S100000.size a)
instance k0_chk571.dec : ∀ (v534 : IVec S16 32), Decidable (k0_chk571 v534) := fun v534 => decidable_of_iff' _ (Iff.of_eq (k0_chk571.eq_1 v534))
theorem k0_idx571_inb : ∀ (v534 : IVec S16 32) (k0_hw571 : k0_chk571 v534), ∀ a x, ((![v534] : Fin 1 → IVec S16 32) a x).toNat < S100000.size a := fun v534 k0_hw571 => k0_hw571
def k0_off660 (k0_t54 : Fin k0_t54_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v536 : BitVec 32 := Scalar.addi v461 c160_i32_300
  let v537 : Index := Scalar.indexCast v536
  ![v537.toNat]

def k0_chk572 (v541 : IVec S16 32) : Prop :=
  (∀ a x, ((![v541] : Fin 1 → IVec S16 32) a x).toNat < S100000.size a)
instance k0_chk572.dec : ∀ (v541 : IVec S16 32), Decidable (k0_chk572 v541) := fun v541 => decidable_of_iff' _ (Iff.of_eq (k0_chk572.eq_1 v541))
theorem k0_idx572_inb : ∀ (v541 : IVec S16 32) (k0_hw572 : k0_chk572 v541), ∀ a x, ((![v541] : Fin 1 → IVec S16 32) a x).toNat < S100000.size a := fun v541 k0_hw572 => k0_hw572
def k0_off661 (k0_t54 : Fin k0_t54_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v543 : BitVec 32 := Scalar.addi v461 c176_i32_301
  let v544 : Index := Scalar.indexCast v543
  ![v544.toNat]

def k0_chk573 (v548 : IVec S16 32) : Prop :=
  (∀ a x, ((![v548] : Fin 1 → IVec S16 32) a x).toNat < S100000.size a)
instance k0_chk573.dec : ∀ (v548 : IVec S16 32), Decidable (k0_chk573 v548) := fun v548 => decidable_of_iff' _ (Iff.of_eq (k0_chk573.eq_1 v548))
theorem k0_idx573_inb : ∀ (v548 : IVec S16 32) (k0_hw573 : k0_chk573 v548), ∀ a x, ((![v548] : Fin 1 → IVec S16 32) a x).toNat < S100000.size a := fun v548 k0_hw573 => k0_hw573
def k0_off662 (k0_t54 : Fin k0_t54_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v550 : BitVec 32 := Scalar.addi v461 c192_i32_302
  let v551 : Index := Scalar.indexCast v550
  ![v551.toNat]

def k0_chk574 (v555 : IVec S16 32) : Prop :=
  (∀ a x, ((![v555] : Fin 1 → IVec S16 32) a x).toNat < S100000.size a)
instance k0_chk574.dec : ∀ (v555 : IVec S16 32), Decidable (k0_chk574 v555) := fun v555 => decidable_of_iff' _ (Iff.of_eq (k0_chk574.eq_1 v555))
theorem k0_idx574_inb : ∀ (v555 : IVec S16 32) (k0_hw574 : k0_chk574 v555), ∀ a x, ((![v555] : Fin 1 → IVec S16 32) a x).toNat < S100000.size a := fun v555 k0_hw574 => k0_hw574
def k0_off663 (k0_t54 : Fin k0_t54_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v557 : BitVec 32 := Scalar.addi v461 c208_i32_303
  let v558 : Index := Scalar.indexCast v557
  ![v558.toNat]

def k0_chk575 (v562 : IVec S16 32) : Prop :=
  (∀ a x, ((![v562] : Fin 1 → IVec S16 32) a x).toNat < S100000.size a)
instance k0_chk575.dec : ∀ (v562 : IVec S16 32), Decidable (k0_chk575 v562) := fun v562 => decidable_of_iff' _ (Iff.of_eq (k0_chk575.eq_1 v562))
theorem k0_idx575_inb : ∀ (v562 : IVec S16 32) (k0_hw575 : k0_chk575 v562), ∀ a x, ((![v562] : Fin 1 → IVec S16 32) a x).toNat < S100000.size a := fun v562 k0_hw575 => k0_hw575
def k0_off664 (k0_t54 : Fin k0_t54_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let v564 : BitVec 32 := Scalar.addi v461 c224_i32_304
  let v565 : Index := Scalar.indexCast v564
  ![v565.toNat]

def k0_chk576 (v569 : IVec S16 32) : Prop :=
  (∀ a x, ((![v569] : Fin 1 → IVec S16 32) a x).toNat < S100000.size a)
instance k0_chk576.dec : ∀ (v569 : IVec S16 32), Decidable (k0_chk576 v569) := fun v569 => decidable_of_iff' _ (Iff.of_eq (k0_chk576.eq_1 v569))
theorem k0_idx576_inb : ∀ (v569 : IVec S16 32) (k0_hw576 : k0_chk576 v569), ∀ a x, ((![v569] : Fin 1 → IVec S16 32) a x).toNat < S100000.size a := fun v569 k0_hw576 => k0_hw576
def k0_off665 (k0_t54 : Fin k0_t54_loop.trips) : Fin 1 → Nat :=
  let c0_i32_281 : BitVec 32 := 0#32
  let c1_i32_283 : BitVec 32 := 1#32
  let arg36 : BitVec 32 := Scf.iv c0_i32_281 c1_i32_283 k0_t54
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off666 (i : grid0.Coords) (k0_t52 : Fin (k0_t52_loop i).trips) : Fin 2 → Nat :=
  let c288_i32_285 : BitVec 32 := 288#32
  let c36_i32_95 : BitVec 32 := 36#32
  let c0_i32_94 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c288_i32 : BitVec 32 := 288#32
  let v167 : BitVec 32 := Scalar.subi v19 c288_i32
  let v168 : BitVec 32 := Scalar.maxsi c0_i32_94 v167
  let v169 : BitVec 32 := Scalar.minsi c36_i32_95 v168
  let c36_i32_98 : BitVec 32 := 36#32
  let c0_i32_97 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c288_i32_96 : BitVec 32 := 288#32
  let v170 : BitVec 32 := Scalar.subi v38 c288_i32_96
  let v171 : BitVec 32 := Scalar.maxsi c0_i32_97 v170
  let v172 : BitVec 32 := Scalar.minsi c36_i32_98 v171
  let v176 : BitVec 32 := Scalar.subi v172 v169
  let c1_i32_101 : BitVec 32 := 1#32
  let v178 : BitVec 32 := Scalar.divsi v176 c1_i32_101
  let v179 : BitVec 32 := Scalar.muli v178 c1_i32_101
  let v180 : BitVec 32 := Scalar.addi v169 v179
  let c1_i32_103 : BitVec 32 := 1#32
  let arg34 : BitVec 32 := Scf.iv v180 c1_i32_103 k0_t52
  let v460 : BitVec 32 := Scalar.addi c288_i32_285 arg34
  let c8192_i32_r71 : BitVec 32 := 8192#32
  ![v460.toNat, 8192]
@[reducible] def k0_t55_loop (i : grid0.Coords) : Scf.Loop 32 :=
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c36_i32_108 : BitVec 32 := 36#32
  let c0_i32_107 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c324_i32_106 : BitVec 32 := 324#32
  let v186 : BitVec 32 := Scalar.subi v38 c324_i32_106
  let v187 : BitVec 32 := Scalar.maxsi c0_i32_107 v186
  let v188 : BitVec 32 := Scalar.minsi c36_i32_108 v187
  let v192 : BitVec 32 := Scalar.subi v188 v185
  let c1_i32_111 : BitVec 32 := 1#32
  let v194 : BitVec 32 := Scalar.divsi v192 c1_i32_111
  let v195 : BitVec 32 := Scalar.muli v194 c1_i32_111
  let v196 : BitVec 32 := Scalar.addi v185 v195
  let c1_i32_112 : BitVec 32 := 1#32
  ⟨v185, v196, c1_i32_112⟩
def k0_off667 (i : grid0.Coords) (k0_t55 : Fin (k0_t55_loop i).trips) : Fin 2 → Nat :=
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c1_i32_112 : BitVec 32 := 1#32
  let arg34 : BitVec 32 := Scf.iv v185 c1_i32_112 k0_t55
  let c0_i32_287_r74 : BitVec 32 := 0#32
  ![arg34.toNat, 0]
@[reducible] def k0_t56_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off668 (k0_t56 : Fin k0_t56_loop.trips) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk577 (v464 : IVec S16 32) : Prop :=
  (∀ a x, ((![v464] : Fin 1 → IVec S16 32) a x).toNat < S100000.size a)
instance k0_chk577.dec : ∀ (v464 : IVec S16 32), Decidable (k0_chk577 v464) := fun v464 => decidable_of_iff' _ (Iff.of_eq (k0_chk577.eq_1 v464))
theorem k0_idx577_inb : ∀ (v464 : IVec S16 32) (k0_hw577 : k0_chk577 v464), ∀ a x, ((![v464] : Fin 1 → IVec S16 32) a x).toNat < S100000.size a := fun v464 k0_hw577 => k0_hw577
def k0_off669 (k0_t56 : Fin k0_t56_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v466 : BitVec 32 := Scalar.addi v461 c0_i32_288
  let v467 : Index := Scalar.indexCast v466
  ![v467.toNat]

def k0_chk578 (v471 : IVec S16 32) : Prop :=
  (∀ a x, ((![v471] : Fin 1 → IVec S16 32) a x).toNat < S100000.size a)
instance k0_chk578.dec : ∀ (v471 : IVec S16 32), Decidable (k0_chk578 v471) := fun v471 => decidable_of_iff' _ (Iff.of_eq (k0_chk578.eq_1 v471))
theorem k0_idx578_inb : ∀ (v471 : IVec S16 32) (k0_hw578 : k0_chk578 v471), ∀ a x, ((![v471] : Fin 1 → IVec S16 32) a x).toNat < S100000.size a := fun v471 k0_hw578 => k0_hw578
def k0_off670 (k0_t56 : Fin k0_t56_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v473 : BitVec 32 := Scalar.addi v461 c16_i32_289
  let v474 : Index := Scalar.indexCast v473
  ![v474.toNat]

def k0_chk579 (v478 : IVec S16 32) : Prop :=
  (∀ a x, ((![v478] : Fin 1 → IVec S16 32) a x).toNat < S100000.size a)
instance k0_chk579.dec : ∀ (v478 : IVec S16 32), Decidable (k0_chk579 v478) := fun v478 => decidable_of_iff' _ (Iff.of_eq (k0_chk579.eq_1 v478))
theorem k0_idx579_inb : ∀ (v478 : IVec S16 32) (k0_hw579 : k0_chk579 v478), ∀ a x, ((![v478] : Fin 1 → IVec S16 32) a x).toNat < S100000.size a := fun v478 k0_hw579 => k0_hw579
def k0_off671 (k0_t56 : Fin k0_t56_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v480 : BitVec 32 := Scalar.addi v461 c32_i32_291
  let v481 : Index := Scalar.indexCast v480
  ![v481.toNat]

def k0_chk580 (v485 : IVec S16 32) : Prop :=
  (∀ a x, ((![v485] : Fin 1 → IVec S16 32) a x).toNat < S100000.size a)
instance k0_chk580.dec : ∀ (v485 : IVec S16 32), Decidable (k0_chk580 v485) := fun v485 => decidable_of_iff' _ (Iff.of_eq (k0_chk580.eq_1 v485))
theorem k0_idx580_inb : ∀ (v485 : IVec S16 32) (k0_hw580 : k0_chk580 v485), ∀ a x, ((![v485] : Fin 1 → IVec S16 32) a x).toNat < S100000.size a := fun v485 k0_hw580 => k0_hw580
def k0_off672 (k0_t56 : Fin k0_t56_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v487 : BitVec 32 := Scalar.addi v461 c48_i32_292
  let v488 : Index := Scalar.indexCast v487
  ![v488.toNat]

def k0_chk581 (v492 : IVec S16 32) : Prop :=
  (∀ a x, ((![v492] : Fin 1 → IVec S16 32) a x).toNat < S100000.size a)
instance k0_chk581.dec : ∀ (v492 : IVec S16 32), Decidable (k0_chk581 v492) := fun v492 => decidable_of_iff' _ (Iff.of_eq (k0_chk581.eq_1 v492))
theorem k0_idx581_inb : ∀ (v492 : IVec S16 32) (k0_hw581 : k0_chk581 v492), ∀ a x, ((![v492] : Fin 1 → IVec S16 32) a x).toNat < S100000.size a := fun v492 k0_hw581 => k0_hw581
def k0_off673 (k0_t56 : Fin k0_t56_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v494 : BitVec 32 := Scalar.addi v461 c64_i32_293
  let v495 : Index := Scalar.indexCast v494
  ![v495.toNat]

def k0_chk582 (v499 : IVec S16 32) : Prop :=
  (∀ a x, ((![v499] : Fin 1 → IVec S16 32) a x).toNat < S100000.size a)
instance k0_chk582.dec : ∀ (v499 : IVec S16 32), Decidable (k0_chk582 v499) := fun v499 => decidable_of_iff' _ (Iff.of_eq (k0_chk582.eq_1 v499))
theorem k0_idx582_inb : ∀ (v499 : IVec S16 32) (k0_hw582 : k0_chk582 v499), ∀ a x, ((![v499] : Fin 1 → IVec S16 32) a x).toNat < S100000.size a := fun v499 k0_hw582 => k0_hw582
def k0_off674 (k0_t56 : Fin k0_t56_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v501 : BitVec 32 := Scalar.addi v461 c80_i32_294
  let v502 : Index := Scalar.indexCast v501
  ![v502.toNat]

def k0_chk583 (v506 : IVec S16 32) : Prop :=
  (∀ a x, ((![v506] : Fin 1 → IVec S16 32) a x).toNat < S100000.size a)
instance k0_chk583.dec : ∀ (v506 : IVec S16 32), Decidable (k0_chk583 v506) := fun v506 => decidable_of_iff' _ (Iff.of_eq (k0_chk583.eq_1 v506))
theorem k0_idx583_inb : ∀ (v506 : IVec S16 32) (k0_hw583 : k0_chk583 v506), ∀ a x, ((![v506] : Fin 1 → IVec S16 32) a x).toNat < S100000.size a := fun v506 k0_hw583 => k0_hw583
def k0_off675 (k0_t56 : Fin k0_t56_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v508 : BitVec 32 := Scalar.addi v461 c96_i32_295
  let v509 : Index := Scalar.indexCast v508
  ![v509.toNat]

def k0_chk584 (v513 : IVec S16 32) : Prop :=
  (∀ a x, ((![v513] : Fin 1 → IVec S16 32) a x).toNat < S100000.size a)
instance k0_chk584.dec : ∀ (v513 : IVec S16 32), Decidable (k0_chk584 v513) := fun v513 => decidable_of_iff' _ (Iff.of_eq (k0_chk584.eq_1 v513))
theorem k0_idx584_inb : ∀ (v513 : IVec S16 32) (k0_hw584 : k0_chk584 v513), ∀ a x, ((![v513] : Fin 1 → IVec S16 32) a x).toNat < S100000.size a := fun v513 k0_hw584 => k0_hw584
def k0_off676 (k0_t56 : Fin k0_t56_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v515 : BitVec 32 := Scalar.addi v461 c112_i32_296
  let v516 : Index := Scalar.indexCast v515
  ![v516.toNat]

def k0_chk585 (v520 : IVec S16 32) : Prop :=
  (∀ a x, ((![v520] : Fin 1 → IVec S16 32) a x).toNat < S100000.size a)
instance k0_chk585.dec : ∀ (v520 : IVec S16 32), Decidable (k0_chk585 v520) := fun v520 => decidable_of_iff' _ (Iff.of_eq (k0_chk585.eq_1 v520))
theorem k0_idx585_inb : ∀ (v520 : IVec S16 32) (k0_hw585 : k0_chk585 v520), ∀ a x, ((![v520] : Fin 1 → IVec S16 32) a x).toNat < S100000.size a := fun v520 k0_hw585 => k0_hw585
def k0_off677 (k0_t56 : Fin k0_t56_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v522 : BitVec 32 := Scalar.addi v461 c128_i32_297
  let v523 : Index := Scalar.indexCast v522
  ![v523.toNat]

def k0_chk586 (v527 : IVec S16 32) : Prop :=
  (∀ a x, ((![v527] : Fin 1 → IVec S16 32) a x).toNat < S100000.size a)
instance k0_chk586.dec : ∀ (v527 : IVec S16 32), Decidable (k0_chk586 v527) := fun v527 => decidable_of_iff' _ (Iff.of_eq (k0_chk586.eq_1 v527))
theorem k0_idx586_inb : ∀ (v527 : IVec S16 32) (k0_hw586 : k0_chk586 v527), ∀ a x, ((![v527] : Fin 1 → IVec S16 32) a x).toNat < S100000.size a := fun v527 k0_hw586 => k0_hw586
def k0_off678 (k0_t56 : Fin k0_t56_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v529 : BitVec 32 := Scalar.addi v461 c144_i32_299
  let v530 : Index := Scalar.indexCast v529
  ![v530.toNat]

def k0_chk587 (v534 : IVec S16 32) : Prop :=
  (∀ a x, ((![v534] : Fin 1 → IVec S16 32) a x).toNat < S100000.size a)
instance k0_chk587.dec : ∀ (v534 : IVec S16 32), Decidable (k0_chk587 v534) := fun v534 => decidable_of_iff' _ (Iff.of_eq (k0_chk587.eq_1 v534))
theorem k0_idx587_inb : ∀ (v534 : IVec S16 32) (k0_hw587 : k0_chk587 v534), ∀ a x, ((![v534] : Fin 1 → IVec S16 32) a x).toNat < S100000.size a := fun v534 k0_hw587 => k0_hw587
def k0_off679 (k0_t56 : Fin k0_t56_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v536 : BitVec 32 := Scalar.addi v461 c160_i32_300
  let v537 : Index := Scalar.indexCast v536
  ![v537.toNat]

def k0_chk588 (v541 : IVec S16 32) : Prop :=
  (∀ a x, ((![v541] : Fin 1 → IVec S16 32) a x).toNat < S100000.size a)
instance k0_chk588.dec : ∀ (v541 : IVec S16 32), Decidable (k0_chk588 v541) := fun v541 => decidable_of_iff' _ (Iff.of_eq (k0_chk588.eq_1 v541))
theorem k0_idx588_inb : ∀ (v541 : IVec S16 32) (k0_hw588 : k0_chk588 v541), ∀ a x, ((![v541] : Fin 1 → IVec S16 32) a x).toNat < S100000.size a := fun v541 k0_hw588 => k0_hw588
def k0_off680 (k0_t56 : Fin k0_t56_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v543 : BitVec 32 := Scalar.addi v461 c176_i32_301
  let v544 : Index := Scalar.indexCast v543
  ![v544.toNat]

def k0_chk589 (v548 : IVec S16 32) : Prop :=
  (∀ a x, ((![v548] : Fin 1 → IVec S16 32) a x).toNat < S100000.size a)
instance k0_chk589.dec : ∀ (v548 : IVec S16 32), Decidable (k0_chk589 v548) := fun v548 => decidable_of_iff' _ (Iff.of_eq (k0_chk589.eq_1 v548))
theorem k0_idx589_inb : ∀ (v548 : IVec S16 32) (k0_hw589 : k0_chk589 v548), ∀ a x, ((![v548] : Fin 1 → IVec S16 32) a x).toNat < S100000.size a := fun v548 k0_hw589 => k0_hw589
def k0_off681 (k0_t56 : Fin k0_t56_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v550 : BitVec 32 := Scalar.addi v461 c192_i32_302
  let v551 : Index := Scalar.indexCast v550
  ![v551.toNat]

def k0_chk590 (v555 : IVec S16 32) : Prop :=
  (∀ a x, ((![v555] : Fin 1 → IVec S16 32) a x).toNat < S100000.size a)
instance k0_chk590.dec : ∀ (v555 : IVec S16 32), Decidable (k0_chk590 v555) := fun v555 => decidable_of_iff' _ (Iff.of_eq (k0_chk590.eq_1 v555))
theorem k0_idx590_inb : ∀ (v555 : IVec S16 32) (k0_hw590 : k0_chk590 v555), ∀ a x, ((![v555] : Fin 1 → IVec S16 32) a x).toNat < S100000.size a := fun v555 k0_hw590 => k0_hw590
def k0_off682 (k0_t56 : Fin k0_t56_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v557 : BitVec 32 := Scalar.addi v461 c208_i32_303
  let v558 : Index := Scalar.indexCast v557
  ![v558.toNat]

def k0_chk591 (v562 : IVec S16 32) : Prop :=
  (∀ a x, ((![v562] : Fin 1 → IVec S16 32) a x).toNat < S100000.size a)
instance k0_chk591.dec : ∀ (v562 : IVec S16 32), Decidable (k0_chk591 v562) := fun v562 => decidable_of_iff' _ (Iff.of_eq (k0_chk591.eq_1 v562))
theorem k0_idx591_inb : ∀ (v562 : IVec S16 32) (k0_hw591 : k0_chk591 v562), ∀ a x, ((![v562] : Fin 1 → IVec S16 32) a x).toNat < S100000.size a := fun v562 k0_hw591 => k0_hw591
def k0_off683 (k0_t56 : Fin k0_t56_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let v564 : BitVec 32 := Scalar.addi v461 c224_i32_304
  let v565 : Index := Scalar.indexCast v564
  ![v565.toNat]

def k0_chk592 (v569 : IVec S16 32) : Prop :=
  (∀ a x, ((![v569] : Fin 1 → IVec S16 32) a x).toNat < S100000.size a)
instance k0_chk592.dec : ∀ (v569 : IVec S16 32), Decidable (k0_chk592 v569) := fun v569 => decidable_of_iff' _ (Iff.of_eq (k0_chk592.eq_1 v569))
theorem k0_idx592_inb : ∀ (v569 : IVec S16 32) (k0_hw592 : k0_chk592 v569), ∀ a x, ((![v569] : Fin 1 → IVec S16 32) a x).toNat < S100000.size a := fun v569 k0_hw592 => k0_hw592
def k0_off684 (k0_t56 : Fin k0_t56_loop.trips) : Fin 1 → Nat :=
  let c0_i32_275 : BitVec 32 := 0#32
  let c1_i32_277 : BitVec 32 := 1#32
  let arg36 : BitVec 32 := Scf.iv c0_i32_275 c1_i32_277 k0_t56
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off685 (i : grid0.Coords) (k0_t55 : Fin (k0_t55_loop i).trips) : Fin 2 → Nat :=
  let c324_i32_279 : BitVec 32 := 324#32
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c1_i32_112 : BitVec 32 := 1#32
  let arg34 : BitVec 32 := Scf.iv v185 c1_i32_112 k0_t55
  let v457 : BitVec 32 := Scalar.addi c324_i32_279 arg34
  let c0_i32_287_r75 : BitVec 32 := 0#32
  ![v457.toNat, 0]
@[reducible] def k0_t57_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off686 (k0_t57 : Fin k0_t57_loop.trips) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk593 (v464 : IVec S16 32) : Prop :=
  (∀ a x, ((![v464] : Fin 1 → IVec S16 32) a x).toNat < S100000.size a)
instance k0_chk593.dec : ∀ (v464 : IVec S16 32), Decidable (k0_chk593 v464) := fun v464 => decidable_of_iff' _ (Iff.of_eq (k0_chk593.eq_1 v464))
theorem k0_idx593_inb : ∀ (v464 : IVec S16 32) (k0_hw593 : k0_chk593 v464), ∀ a x, ((![v464] : Fin 1 → IVec S16 32) a x).toNat < S100000.size a := fun v464 k0_hw593 => k0_hw593
def k0_off687 (k0_t57 : Fin k0_t57_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v466 : BitVec 32 := Scalar.addi v461 c0_i32_288
  let v467 : Index := Scalar.indexCast v466
  ![v467.toNat]

def k0_chk594 (v471 : IVec S16 32) : Prop :=
  (∀ a x, ((![v471] : Fin 1 → IVec S16 32) a x).toNat < S100000.size a)
instance k0_chk594.dec : ∀ (v471 : IVec S16 32), Decidable (k0_chk594 v471) := fun v471 => decidable_of_iff' _ (Iff.of_eq (k0_chk594.eq_1 v471))
theorem k0_idx594_inb : ∀ (v471 : IVec S16 32) (k0_hw594 : k0_chk594 v471), ∀ a x, ((![v471] : Fin 1 → IVec S16 32) a x).toNat < S100000.size a := fun v471 k0_hw594 => k0_hw594
def k0_off688 (k0_t57 : Fin k0_t57_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v473 : BitVec 32 := Scalar.addi v461 c16_i32_289
  let v474 : Index := Scalar.indexCast v473
  ![v474.toNat]

def k0_chk595 (v478 : IVec S16 32) : Prop :=
  (∀ a x, ((![v478] : Fin 1 → IVec S16 32) a x).toNat < S100000.size a)
instance k0_chk595.dec : ∀ (v478 : IVec S16 32), Decidable (k0_chk595 v478) := fun v478 => decidable_of_iff' _ (Iff.of_eq (k0_chk595.eq_1 v478))
theorem k0_idx595_inb : ∀ (v478 : IVec S16 32) (k0_hw595 : k0_chk595 v478), ∀ a x, ((![v478] : Fin 1 → IVec S16 32) a x).toNat < S100000.size a := fun v478 k0_hw595 => k0_hw595
def k0_off689 (k0_t57 : Fin k0_t57_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v480 : BitVec 32 := Scalar.addi v461 c32_i32_291
  let v481 : Index := Scalar.indexCast v480
  ![v481.toNat]

def k0_chk596 (v485 : IVec S16 32) : Prop :=
  (∀ a x, ((![v485] : Fin 1 → IVec S16 32) a x).toNat < S100000.size a)
instance k0_chk596.dec : ∀ (v485 : IVec S16 32), Decidable (k0_chk596 v485) := fun v485 => decidable_of_iff' _ (Iff.of_eq (k0_chk596.eq_1 v485))
theorem k0_idx596_inb : ∀ (v485 : IVec S16 32) (k0_hw596 : k0_chk596 v485), ∀ a x, ((![v485] : Fin 1 → IVec S16 32) a x).toNat < S100000.size a := fun v485 k0_hw596 => k0_hw596
def k0_off690 (k0_t57 : Fin k0_t57_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v487 : BitVec 32 := Scalar.addi v461 c48_i32_292
  let v488 : Index := Scalar.indexCast v487
  ![v488.toNat]

def k0_chk597 (v492 : IVec S16 32) : Prop :=
  (∀ a x, ((![v492] : Fin 1 → IVec S16 32) a x).toNat < S100000.size a)
instance k0_chk597.dec : ∀ (v492 : IVec S16 32), Decidable (k0_chk597 v492) := fun v492 => decidable_of_iff' _ (Iff.of_eq (k0_chk597.eq_1 v492))
theorem k0_idx597_inb : ∀ (v492 : IVec S16 32) (k0_hw597 : k0_chk597 v492), ∀ a x, ((![v492] : Fin 1 → IVec S16 32) a x).toNat < S100000.size a := fun v492 k0_hw597 => k0_hw597
def k0_off691 (k0_t57 : Fin k0_t57_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v494 : BitVec 32 := Scalar.addi v461 c64_i32_293
  let v495 : Index := Scalar.indexCast v494
  ![v495.toNat]

def k0_chk598 (v499 : IVec S16 32) : Prop :=
  (∀ a x, ((![v499] : Fin 1 → IVec S16 32) a x).toNat < S100000.size a)
instance k0_chk598.dec : ∀ (v499 : IVec S16 32), Decidable (k0_chk598 v499) := fun v499 => decidable_of_iff' _ (Iff.of_eq (k0_chk598.eq_1 v499))
theorem k0_idx598_inb : ∀ (v499 : IVec S16 32) (k0_hw598 : k0_chk598 v499), ∀ a x, ((![v499] : Fin 1 → IVec S16 32) a x).toNat < S100000.size a := fun v499 k0_hw598 => k0_hw598
def k0_off692 (k0_t57 : Fin k0_t57_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v501 : BitVec 32 := Scalar.addi v461 c80_i32_294
  let v502 : Index := Scalar.indexCast v501
  ![v502.toNat]

def k0_chk599 (v506 : IVec S16 32) : Prop :=
  (∀ a x, ((![v506] : Fin 1 → IVec S16 32) a x).toNat < S100000.size a)
instance k0_chk599.dec : ∀ (v506 : IVec S16 32), Decidable (k0_chk599 v506) := fun v506 => decidable_of_iff' _ (Iff.of_eq (k0_chk599.eq_1 v506))
theorem k0_idx599_inb : ∀ (v506 : IVec S16 32) (k0_hw599 : k0_chk599 v506), ∀ a x, ((![v506] : Fin 1 → IVec S16 32) a x).toNat < S100000.size a := fun v506 k0_hw599 => k0_hw599
def k0_off693 (k0_t57 : Fin k0_t57_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v508 : BitVec 32 := Scalar.addi v461 c96_i32_295
  let v509 : Index := Scalar.indexCast v508
  ![v509.toNat]

def k0_chk600 (v513 : IVec S16 32) : Prop :=
  (∀ a x, ((![v513] : Fin 1 → IVec S16 32) a x).toNat < S100000.size a)
instance k0_chk600.dec : ∀ (v513 : IVec S16 32), Decidable (k0_chk600 v513) := fun v513 => decidable_of_iff' _ (Iff.of_eq (k0_chk600.eq_1 v513))
theorem k0_idx600_inb : ∀ (v513 : IVec S16 32) (k0_hw600 : k0_chk600 v513), ∀ a x, ((![v513] : Fin 1 → IVec S16 32) a x).toNat < S100000.size a := fun v513 k0_hw600 => k0_hw600
def k0_off694 (k0_t57 : Fin k0_t57_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v515 : BitVec 32 := Scalar.addi v461 c112_i32_296
  let v516 : Index := Scalar.indexCast v515
  ![v516.toNat]

def k0_chk601 (v520 : IVec S16 32) : Prop :=
  (∀ a x, ((![v520] : Fin 1 → IVec S16 32) a x).toNat < S100000.size a)
instance k0_chk601.dec : ∀ (v520 : IVec S16 32), Decidable (k0_chk601 v520) := fun v520 => decidable_of_iff' _ (Iff.of_eq (k0_chk601.eq_1 v520))
theorem k0_idx601_inb : ∀ (v520 : IVec S16 32) (k0_hw601 : k0_chk601 v520), ∀ a x, ((![v520] : Fin 1 → IVec S16 32) a x).toNat < S100000.size a := fun v520 k0_hw601 => k0_hw601
def k0_off695 (k0_t57 : Fin k0_t57_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v522 : BitVec 32 := Scalar.addi v461 c128_i32_297
  let v523 : Index := Scalar.indexCast v522
  ![v523.toNat]

def k0_chk602 (v527 : IVec S16 32) : Prop :=
  (∀ a x, ((![v527] : Fin 1 → IVec S16 32) a x).toNat < S100000.size a)
instance k0_chk602.dec : ∀ (v527 : IVec S16 32), Decidable (k0_chk602 v527) := fun v527 => decidable_of_iff' _ (Iff.of_eq (k0_chk602.eq_1 v527))
theorem k0_idx602_inb : ∀ (v527 : IVec S16 32) (k0_hw602 : k0_chk602 v527), ∀ a x, ((![v527] : Fin 1 → IVec S16 32) a x).toNat < S100000.size a := fun v527 k0_hw602 => k0_hw602
def k0_off696 (k0_t57 : Fin k0_t57_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v529 : BitVec 32 := Scalar.addi v461 c144_i32_299
  let v530 : Index := Scalar.indexCast v529
  ![v530.toNat]

def k0_chk603 (v534 : IVec S16 32) : Prop :=
  (∀ a x, ((![v534] : Fin 1 → IVec S16 32) a x).toNat < S100000.size a)
instance k0_chk603.dec : ∀ (v534 : IVec S16 32), Decidable (k0_chk603 v534) := fun v534 => decidable_of_iff' _ (Iff.of_eq (k0_chk603.eq_1 v534))
theorem k0_idx603_inb : ∀ (v534 : IVec S16 32) (k0_hw603 : k0_chk603 v534), ∀ a x, ((![v534] : Fin 1 → IVec S16 32) a x).toNat < S100000.size a := fun v534 k0_hw603 => k0_hw603
def k0_off697 (k0_t57 : Fin k0_t57_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v536 : BitVec 32 := Scalar.addi v461 c160_i32_300
  let v537 : Index := Scalar.indexCast v536
  ![v537.toNat]

def k0_chk604 (v541 : IVec S16 32) : Prop :=
  (∀ a x, ((![v541] : Fin 1 → IVec S16 32) a x).toNat < S100000.size a)
instance k0_chk604.dec : ∀ (v541 : IVec S16 32), Decidable (k0_chk604 v541) := fun v541 => decidable_of_iff' _ (Iff.of_eq (k0_chk604.eq_1 v541))
theorem k0_idx604_inb : ∀ (v541 : IVec S16 32) (k0_hw604 : k0_chk604 v541), ∀ a x, ((![v541] : Fin 1 → IVec S16 32) a x).toNat < S100000.size a := fun v541 k0_hw604 => k0_hw604
def k0_off698 (k0_t57 : Fin k0_t57_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v543 : BitVec 32 := Scalar.addi v461 c176_i32_301
  let v544 : Index := Scalar.indexCast v543
  ![v544.toNat]

def k0_chk605 (v548 : IVec S16 32) : Prop :=
  (∀ a x, ((![v548] : Fin 1 → IVec S16 32) a x).toNat < S100000.size a)
instance k0_chk605.dec : ∀ (v548 : IVec S16 32), Decidable (k0_chk605 v548) := fun v548 => decidable_of_iff' _ (Iff.of_eq (k0_chk605.eq_1 v548))
theorem k0_idx605_inb : ∀ (v548 : IVec S16 32) (k0_hw605 : k0_chk605 v548), ∀ a x, ((![v548] : Fin 1 → IVec S16 32) a x).toNat < S100000.size a := fun v548 k0_hw605 => k0_hw605
def k0_off699 (k0_t57 : Fin k0_t57_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v550 : BitVec 32 := Scalar.addi v461 c192_i32_302
  let v551 : Index := Scalar.indexCast v550
  ![v551.toNat]

def k0_chk606 (v555 : IVec S16 32) : Prop :=
  (∀ a x, ((![v555] : Fin 1 → IVec S16 32) a x).toNat < S100000.size a)
instance k0_chk606.dec : ∀ (v555 : IVec S16 32), Decidable (k0_chk606 v555) := fun v555 => decidable_of_iff' _ (Iff.of_eq (k0_chk606.eq_1 v555))
theorem k0_idx606_inb : ∀ (v555 : IVec S16 32) (k0_hw606 : k0_chk606 v555), ∀ a x, ((![v555] : Fin 1 → IVec S16 32) a x).toNat < S100000.size a := fun v555 k0_hw606 => k0_hw606
def k0_off700 (k0_t57 : Fin k0_t57_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v557 : BitVec 32 := Scalar.addi v461 c208_i32_303
  let v558 : Index := Scalar.indexCast v557
  ![v558.toNat]

def k0_chk607 (v562 : IVec S16 32) : Prop :=
  (∀ a x, ((![v562] : Fin 1 → IVec S16 32) a x).toNat < S100000.size a)
instance k0_chk607.dec : ∀ (v562 : IVec S16 32), Decidable (k0_chk607 v562) := fun v562 => decidable_of_iff' _ (Iff.of_eq (k0_chk607.eq_1 v562))
theorem k0_idx607_inb : ∀ (v562 : IVec S16 32) (k0_hw607 : k0_chk607 v562), ∀ a x, ((![v562] : Fin 1 → IVec S16 32) a x).toNat < S100000.size a := fun v562 k0_hw607 => k0_hw607
def k0_off701 (k0_t57 : Fin k0_t57_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let v564 : BitVec 32 := Scalar.addi v461 c224_i32_304
  let v565 : Index := Scalar.indexCast v564
  ![v565.toNat]

def k0_chk608 (v569 : IVec S16 32) : Prop :=
  (∀ a x, ((![v569] : Fin 1 → IVec S16 32) a x).toNat < S100000.size a)
instance k0_chk608.dec : ∀ (v569 : IVec S16 32), Decidable (k0_chk608 v569) := fun v569 => decidable_of_iff' _ (Iff.of_eq (k0_chk608.eq_1 v569))
theorem k0_idx608_inb : ∀ (v569 : IVec S16 32) (k0_hw608 : k0_chk608 v569), ∀ a x, ((![v569] : Fin 1 → IVec S16 32) a x).toNat < S100000.size a := fun v569 k0_hw608 => k0_hw608
def k0_off702 (k0_t57 : Fin k0_t57_loop.trips) : Fin 1 → Nat :=
  let c0_i32_281 : BitVec 32 := 0#32
  let c1_i32_283 : BitVec 32 := 1#32
  let arg36 : BitVec 32 := Scf.iv c0_i32_281 c1_i32_283 k0_t57
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off703 (i : grid0.Coords) (k0_t55 : Fin (k0_t55_loop i).trips) : Fin 2 → Nat :=
  let c324_i32_285 : BitVec 32 := 324#32
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c1_i32_112 : BitVec 32 := 1#32
  let arg34 : BitVec 32 := Scf.iv v185 c1_i32_112 k0_t55
  let v460 : BitVec 32 := Scalar.addi c324_i32_285 arg34
  let c8192_i32_r76 : BitVec 32 := 8192#32
  ![v460.toNat, 8192]
@[reducible] def k0_t58_loop (i : grid0.Coords) : Scf.Loop 32 :=
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c36_i32_108 : BitVec 32 := 36#32
  let c0_i32_107 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c324_i32_106 : BitVec 32 := 324#32
  let v186 : BitVec 32 := Scalar.subi v38 c324_i32_106
  let v187 : BitVec 32 := Scalar.maxsi c0_i32_107 v186
  let v188 : BitVec 32 := Scalar.minsi c36_i32_108 v187
  let v192 : BitVec 32 := Scalar.subi v188 v185
  let c1_i32_111 : BitVec 32 := 1#32
  let v194 : BitVec 32 := Scalar.divsi v192 c1_i32_111
  let v195 : BitVec 32 := Scalar.muli v194 c1_i32_111
  let v196 : BitVec 32 := Scalar.addi v185 v195
  let v193 : BitVec 32 := Scalar.addi v185 v192
  let c1_i32_113 : BitVec 32 := 1#32
  ⟨v196, v193, c1_i32_113⟩
def k0_off704 (i : grid0.Coords) (k0_t58 : Fin (k0_t58_loop i).trips) : Fin 2 → Nat :=
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c36_i32_108 : BitVec 32 := 36#32
  let c0_i32_107 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c324_i32_106 : BitVec 32 := 324#32
  let v186 : BitVec 32 := Scalar.subi v38 c324_i32_106
  let v187 : BitVec 32 := Scalar.maxsi c0_i32_107 v186
  let v188 : BitVec 32 := Scalar.minsi c36_i32_108 v187
  let v192 : BitVec 32 := Scalar.subi v188 v185
  let c1_i32_111 : BitVec 32 := 1#32
  let v194 : BitVec 32 := Scalar.divsi v192 c1_i32_111
  let v195 : BitVec 32 := Scalar.muli v194 c1_i32_111
  let v196 : BitVec 32 := Scalar.addi v185 v195
  let c1_i32_113 : BitVec 32 := 1#32
  let arg34 : BitVec 32 := Scf.iv v196 c1_i32_113 k0_t58
  let c0_i32_287_r77 : BitVec 32 := 0#32
  ![arg34.toNat, 0]
@[reducible] def k0_t59_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off705 (k0_t59 : Fin k0_t59_loop.trips) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk609 (v464 : IVec S16 32) : Prop :=
  (∀ a x, ((![v464] : Fin 1 → IVec S16 32) a x).toNat < S100000.size a)
instance k0_chk609.dec : ∀ (v464 : IVec S16 32), Decidable (k0_chk609 v464) := fun v464 => decidable_of_iff' _ (Iff.of_eq (k0_chk609.eq_1 v464))
theorem k0_idx609_inb : ∀ (v464 : IVec S16 32) (k0_hw609 : k0_chk609 v464), ∀ a x, ((![v464] : Fin 1 → IVec S16 32) a x).toNat < S100000.size a := fun v464 k0_hw609 => k0_hw609
def k0_off706 (k0_t59 : Fin k0_t59_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v466 : BitVec 32 := Scalar.addi v461 c0_i32_288
  let v467 : Index := Scalar.indexCast v466
  ![v467.toNat]

def k0_chk610 (v471 : IVec S16 32) : Prop :=
  (∀ a x, ((![v471] : Fin 1 → IVec S16 32) a x).toNat < S100000.size a)
instance k0_chk610.dec : ∀ (v471 : IVec S16 32), Decidable (k0_chk610 v471) := fun v471 => decidable_of_iff' _ (Iff.of_eq (k0_chk610.eq_1 v471))
theorem k0_idx610_inb : ∀ (v471 : IVec S16 32) (k0_hw610 : k0_chk610 v471), ∀ a x, ((![v471] : Fin 1 → IVec S16 32) a x).toNat < S100000.size a := fun v471 k0_hw610 => k0_hw610
def k0_off707 (k0_t59 : Fin k0_t59_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v473 : BitVec 32 := Scalar.addi v461 c16_i32_289
  let v474 : Index := Scalar.indexCast v473
  ![v474.toNat]

def k0_chk611 (v478 : IVec S16 32) : Prop :=
  (∀ a x, ((![v478] : Fin 1 → IVec S16 32) a x).toNat < S100000.size a)
instance k0_chk611.dec : ∀ (v478 : IVec S16 32), Decidable (k0_chk611 v478) := fun v478 => decidable_of_iff' _ (Iff.of_eq (k0_chk611.eq_1 v478))
theorem k0_idx611_inb : ∀ (v478 : IVec S16 32) (k0_hw611 : k0_chk611 v478), ∀ a x, ((![v478] : Fin 1 → IVec S16 32) a x).toNat < S100000.size a := fun v478 k0_hw611 => k0_hw611
def k0_off708 (k0_t59 : Fin k0_t59_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v480 : BitVec 32 := Scalar.addi v461 c32_i32_291
  let v481 : Index := Scalar.indexCast v480
  ![v481.toNat]

def k0_chk612 (v485 : IVec S16 32) : Prop :=
  (∀ a x, ((![v485] : Fin 1 → IVec S16 32) a x).toNat < S100000.size a)
instance k0_chk612.dec : ∀ (v485 : IVec S16 32), Decidable (k0_chk612 v485) := fun v485 => decidable_of_iff' _ (Iff.of_eq (k0_chk612.eq_1 v485))
theorem k0_idx612_inb : ∀ (v485 : IVec S16 32) (k0_hw612 : k0_chk612 v485), ∀ a x, ((![v485] : Fin 1 → IVec S16 32) a x).toNat < S100000.size a := fun v485 k0_hw612 => k0_hw612
def k0_off709 (k0_t59 : Fin k0_t59_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v487 : BitVec 32 := Scalar.addi v461 c48_i32_292
  let v488 : Index := Scalar.indexCast v487
  ![v488.toNat]

def k0_chk613 (v492 : IVec S16 32) : Prop :=
  (∀ a x, ((![v492] : Fin 1 → IVec S16 32) a x).toNat < S100000.size a)
instance k0_chk613.dec : ∀ (v492 : IVec S16 32), Decidable (k0_chk613 v492) := fun v492 => decidable_of_iff' _ (Iff.of_eq (k0_chk613.eq_1 v492))
theorem k0_idx613_inb : ∀ (v492 : IVec S16 32) (k0_hw613 : k0_chk613 v492), ∀ a x, ((![v492] : Fin 1 → IVec S16 32) a x).toNat < S100000.size a := fun v492 k0_hw613 => k0_hw613
def k0_off710 (k0_t59 : Fin k0_t59_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v494 : BitVec 32 := Scalar.addi v461 c64_i32_293
  let v495 : Index := Scalar.indexCast v494
  ![v495.toNat]

def k0_chk614 (v499 : IVec S16 32) : Prop :=
  (∀ a x, ((![v499] : Fin 1 → IVec S16 32) a x).toNat < S100000.size a)
instance k0_chk614.dec : ∀ (v499 : IVec S16 32), Decidable (k0_chk614 v499) := fun v499 => decidable_of_iff' _ (Iff.of_eq (k0_chk614.eq_1 v499))
theorem k0_idx614_inb : ∀ (v499 : IVec S16 32) (k0_hw614 : k0_chk614 v499), ∀ a x, ((![v499] : Fin 1 → IVec S16 32) a x).toNat < S100000.size a := fun v499 k0_hw614 => k0_hw614
def k0_off711 (k0_t59 : Fin k0_t59_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v501 : BitVec 32 := Scalar.addi v461 c80_i32_294
  let v502 : Index := Scalar.indexCast v501
  ![v502.toNat]

def k0_chk615 (v506 : IVec S16 32) : Prop :=
  (∀ a x, ((![v506] : Fin 1 → IVec S16 32) a x).toNat < S100000.size a)
instance k0_chk615.dec : ∀ (v506 : IVec S16 32), Decidable (k0_chk615 v506) := fun v506 => decidable_of_iff' _ (Iff.of_eq (k0_chk615.eq_1 v506))
theorem k0_idx615_inb : ∀ (v506 : IVec S16 32) (k0_hw615 : k0_chk615 v506), ∀ a x, ((![v506] : Fin 1 → IVec S16 32) a x).toNat < S100000.size a := fun v506 k0_hw615 => k0_hw615
def k0_off712 (k0_t59 : Fin k0_t59_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v508 : BitVec 32 := Scalar.addi v461 c96_i32_295
  let v509 : Index := Scalar.indexCast v508
  ![v509.toNat]

def k0_chk616 (v513 : IVec S16 32) : Prop :=
  (∀ a x, ((![v513] : Fin 1 → IVec S16 32) a x).toNat < S100000.size a)
instance k0_chk616.dec : ∀ (v513 : IVec S16 32), Decidable (k0_chk616 v513) := fun v513 => decidable_of_iff' _ (Iff.of_eq (k0_chk616.eq_1 v513))
theorem k0_idx616_inb : ∀ (v513 : IVec S16 32) (k0_hw616 : k0_chk616 v513), ∀ a x, ((![v513] : Fin 1 → IVec S16 32) a x).toNat < S100000.size a := fun v513 k0_hw616 => k0_hw616
def k0_off713 (k0_t59 : Fin k0_t59_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v515 : BitVec 32 := Scalar.addi v461 c112_i32_296
  let v516 : Index := Scalar.indexCast v515
  ![v516.toNat]

def k0_chk617 (v520 : IVec S16 32) : Prop :=
  (∀ a x, ((![v520] : Fin 1 → IVec S16 32) a x).toNat < S100000.size a)
instance k0_chk617.dec : ∀ (v520 : IVec S16 32), Decidable (k0_chk617 v520) := fun v520 => decidable_of_iff' _ (Iff.of_eq (k0_chk617.eq_1 v520))
theorem k0_idx617_inb : ∀ (v520 : IVec S16 32) (k0_hw617 : k0_chk617 v520), ∀ a x, ((![v520] : Fin 1 → IVec S16 32) a x).toNat < S100000.size a := fun v520 k0_hw617 => k0_hw617
def k0_off714 (k0_t59 : Fin k0_t59_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v522 : BitVec 32 := Scalar.addi v461 c128_i32_297
  let v523 : Index := Scalar.indexCast v522
  ![v523.toNat]

def k0_chk618 (v527 : IVec S16 32) : Prop :=
  (∀ a x, ((![v527] : Fin 1 → IVec S16 32) a x).toNat < S100000.size a)
instance k0_chk618.dec : ∀ (v527 : IVec S16 32), Decidable (k0_chk618 v527) := fun v527 => decidable_of_iff' _ (Iff.of_eq (k0_chk618.eq_1 v527))
theorem k0_idx618_inb : ∀ (v527 : IVec S16 32) (k0_hw618 : k0_chk618 v527), ∀ a x, ((![v527] : Fin 1 → IVec S16 32) a x).toNat < S100000.size a := fun v527 k0_hw618 => k0_hw618
def k0_off715 (k0_t59 : Fin k0_t59_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v529 : BitVec 32 := Scalar.addi v461 c144_i32_299
  let v530 : Index := Scalar.indexCast v529
  ![v530.toNat]

def k0_chk619 (v534 : IVec S16 32) : Prop :=
  (∀ a x, ((![v534] : Fin 1 → IVec S16 32) a x).toNat < S100000.size a)
instance k0_chk619.dec : ∀ (v534 : IVec S16 32), Decidable (k0_chk619 v534) := fun v534 => decidable_of_iff' _ (Iff.of_eq (k0_chk619.eq_1 v534))
theorem k0_idx619_inb : ∀ (v534 : IVec S16 32) (k0_hw619 : k0_chk619 v534), ∀ a x, ((![v534] : Fin 1 → IVec S16 32) a x).toNat < S100000.size a := fun v534 k0_hw619 => k0_hw619
def k0_off716 (k0_t59 : Fin k0_t59_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v536 : BitVec 32 := Scalar.addi v461 c160_i32_300
  let v537 : Index := Scalar.indexCast v536
  ![v537.toNat]

def k0_chk620 (v541 : IVec S16 32) : Prop :=
  (∀ a x, ((![v541] : Fin 1 → IVec S16 32) a x).toNat < S100000.size a)
instance k0_chk620.dec : ∀ (v541 : IVec S16 32), Decidable (k0_chk620 v541) := fun v541 => decidable_of_iff' _ (Iff.of_eq (k0_chk620.eq_1 v541))
theorem k0_idx620_inb : ∀ (v541 : IVec S16 32) (k0_hw620 : k0_chk620 v541), ∀ a x, ((![v541] : Fin 1 → IVec S16 32) a x).toNat < S100000.size a := fun v541 k0_hw620 => k0_hw620
def k0_off717 (k0_t59 : Fin k0_t59_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v543 : BitVec 32 := Scalar.addi v461 c176_i32_301
  let v544 : Index := Scalar.indexCast v543
  ![v544.toNat]

def k0_chk621 (v548 : IVec S16 32) : Prop :=
  (∀ a x, ((![v548] : Fin 1 → IVec S16 32) a x).toNat < S100000.size a)
instance k0_chk621.dec : ∀ (v548 : IVec S16 32), Decidable (k0_chk621 v548) := fun v548 => decidable_of_iff' _ (Iff.of_eq (k0_chk621.eq_1 v548))
theorem k0_idx621_inb : ∀ (v548 : IVec S16 32) (k0_hw621 : k0_chk621 v548), ∀ a x, ((![v548] : Fin 1 → IVec S16 32) a x).toNat < S100000.size a := fun v548 k0_hw621 => k0_hw621
def k0_off718 (k0_t59 : Fin k0_t59_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v550 : BitVec 32 := Scalar.addi v461 c192_i32_302
  let v551 : Index := Scalar.indexCast v550
  ![v551.toNat]

def k0_chk622 (v555 : IVec S16 32) : Prop :=
  (∀ a x, ((![v555] : Fin 1 → IVec S16 32) a x).toNat < S100000.size a)
instance k0_chk622.dec : ∀ (v555 : IVec S16 32), Decidable (k0_chk622 v555) := fun v555 => decidable_of_iff' _ (Iff.of_eq (k0_chk622.eq_1 v555))
theorem k0_idx622_inb : ∀ (v555 : IVec S16 32) (k0_hw622 : k0_chk622 v555), ∀ a x, ((![v555] : Fin 1 → IVec S16 32) a x).toNat < S100000.size a := fun v555 k0_hw622 => k0_hw622
def k0_off719 (k0_t59 : Fin k0_t59_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v557 : BitVec 32 := Scalar.addi v461 c208_i32_303
  let v558 : Index := Scalar.indexCast v557
  ![v558.toNat]

def k0_chk623 (v562 : IVec S16 32) : Prop :=
  (∀ a x, ((![v562] : Fin 1 → IVec S16 32) a x).toNat < S100000.size a)
instance k0_chk623.dec : ∀ (v562 : IVec S16 32), Decidable (k0_chk623 v562) := fun v562 => decidable_of_iff' _ (Iff.of_eq (k0_chk623.eq_1 v562))
theorem k0_idx623_inb : ∀ (v562 : IVec S16 32) (k0_hw623 : k0_chk623 v562), ∀ a x, ((![v562] : Fin 1 → IVec S16 32) a x).toNat < S100000.size a := fun v562 k0_hw623 => k0_hw623
def k0_off720 (k0_t59 : Fin k0_t59_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let v564 : BitVec 32 := Scalar.addi v461 c224_i32_304
  let v565 : Index := Scalar.indexCast v564
  ![v565.toNat]

def k0_chk624 (v569 : IVec S16 32) : Prop :=
  (∀ a x, ((![v569] : Fin 1 → IVec S16 32) a x).toNat < S100000.size a)
instance k0_chk624.dec : ∀ (v569 : IVec S16 32), Decidable (k0_chk624 v569) := fun v569 => decidable_of_iff' _ (Iff.of_eq (k0_chk624.eq_1 v569))
theorem k0_idx624_inb : ∀ (v569 : IVec S16 32) (k0_hw624 : k0_chk624 v569), ∀ a x, ((![v569] : Fin 1 → IVec S16 32) a x).toNat < S100000.size a := fun v569 k0_hw624 => k0_hw624
def k0_off721 (k0_t59 : Fin k0_t59_loop.trips) : Fin 1 → Nat :=
  let c0_i32_275 : BitVec 32 := 0#32
  let c1_i32_277 : BitVec 32 := 1#32
  let arg36 : BitVec 32 := Scf.iv c0_i32_275 c1_i32_277 k0_t59
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off722 (i : grid0.Coords) (k0_t58 : Fin (k0_t58_loop i).trips) : Fin 2 → Nat :=
  let c324_i32_279 : BitVec 32 := 324#32
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c36_i32_108 : BitVec 32 := 36#32
  let c0_i32_107 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c324_i32_106 : BitVec 32 := 324#32
  let v186 : BitVec 32 := Scalar.subi v38 c324_i32_106
  let v187 : BitVec 32 := Scalar.maxsi c0_i32_107 v186
  let v188 : BitVec 32 := Scalar.minsi c36_i32_108 v187
  let v192 : BitVec 32 := Scalar.subi v188 v185
  let c1_i32_111 : BitVec 32 := 1#32
  let v194 : BitVec 32 := Scalar.divsi v192 c1_i32_111
  let v195 : BitVec 32 := Scalar.muli v194 c1_i32_111
  let v196 : BitVec 32 := Scalar.addi v185 v195
  let c1_i32_113 : BitVec 32 := 1#32
  let arg34 : BitVec 32 := Scf.iv v196 c1_i32_113 k0_t58
  let v457 : BitVec 32 := Scalar.addi c324_i32_279 arg34
  let c0_i32_287_r78 : BitVec 32 := 0#32
  ![v457.toNat, 0]
@[reducible] def k0_t60_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off723 (k0_t60 : Fin k0_t60_loop.trips) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk625 (v464 : IVec S16 32) : Prop :=
  (∀ a x, ((![v464] : Fin 1 → IVec S16 32) a x).toNat < S100000.size a)
instance k0_chk625.dec : ∀ (v464 : IVec S16 32), Decidable (k0_chk625 v464) := fun v464 => decidable_of_iff' _ (Iff.of_eq (k0_chk625.eq_1 v464))
theorem k0_idx625_inb : ∀ (v464 : IVec S16 32) (k0_hw625 : k0_chk625 v464), ∀ a x, ((![v464] : Fin 1 → IVec S16 32) a x).toNat < S100000.size a := fun v464 k0_hw625 => k0_hw625
def k0_off724 (k0_t60 : Fin k0_t60_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v466 : BitVec 32 := Scalar.addi v461 c0_i32_288
  let v467 : Index := Scalar.indexCast v466
  ![v467.toNat]

def k0_chk626 (v471 : IVec S16 32) : Prop :=
  (∀ a x, ((![v471] : Fin 1 → IVec S16 32) a x).toNat < S100000.size a)
instance k0_chk626.dec : ∀ (v471 : IVec S16 32), Decidable (k0_chk626 v471) := fun v471 => decidable_of_iff' _ (Iff.of_eq (k0_chk626.eq_1 v471))
theorem k0_idx626_inb : ∀ (v471 : IVec S16 32) (k0_hw626 : k0_chk626 v471), ∀ a x, ((![v471] : Fin 1 → IVec S16 32) a x).toNat < S100000.size a := fun v471 k0_hw626 => k0_hw626
def k0_off725 (k0_t60 : Fin k0_t60_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v473 : BitVec 32 := Scalar.addi v461 c16_i32_289
  let v474 : Index := Scalar.indexCast v473
  ![v474.toNat]

def k0_chk627 (v478 : IVec S16 32) : Prop :=
  (∀ a x, ((![v478] : Fin 1 → IVec S16 32) a x).toNat < S100000.size a)
instance k0_chk627.dec : ∀ (v478 : IVec S16 32), Decidable (k0_chk627 v478) := fun v478 => decidable_of_iff' _ (Iff.of_eq (k0_chk627.eq_1 v478))
theorem k0_idx627_inb : ∀ (v478 : IVec S16 32) (k0_hw627 : k0_chk627 v478), ∀ a x, ((![v478] : Fin 1 → IVec S16 32) a x).toNat < S100000.size a := fun v478 k0_hw627 => k0_hw627
def k0_off726 (k0_t60 : Fin k0_t60_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v480 : BitVec 32 := Scalar.addi v461 c32_i32_291
  let v481 : Index := Scalar.indexCast v480
  ![v481.toNat]

def k0_chk628 (v485 : IVec S16 32) : Prop :=
  (∀ a x, ((![v485] : Fin 1 → IVec S16 32) a x).toNat < S100000.size a)
instance k0_chk628.dec : ∀ (v485 : IVec S16 32), Decidable (k0_chk628 v485) := fun v485 => decidable_of_iff' _ (Iff.of_eq (k0_chk628.eq_1 v485))
theorem k0_idx628_inb : ∀ (v485 : IVec S16 32) (k0_hw628 : k0_chk628 v485), ∀ a x, ((![v485] : Fin 1 → IVec S16 32) a x).toNat < S100000.size a := fun v485 k0_hw628 => k0_hw628
def k0_off727 (k0_t60 : Fin k0_t60_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v487 : BitVec 32 := Scalar.addi v461 c48_i32_292
  let v488 : Index := Scalar.indexCast v487
  ![v488.toNat]

def k0_chk629 (v492 : IVec S16 32) : Prop :=
  (∀ a x, ((![v492] : Fin 1 → IVec S16 32) a x).toNat < S100000.size a)
instance k0_chk629.dec : ∀ (v492 : IVec S16 32), Decidable (k0_chk629 v492) := fun v492 => decidable_of_iff' _ (Iff.of_eq (k0_chk629.eq_1 v492))
theorem k0_idx629_inb : ∀ (v492 : IVec S16 32) (k0_hw629 : k0_chk629 v492), ∀ a x, ((![v492] : Fin 1 → IVec S16 32) a x).toNat < S100000.size a := fun v492 k0_hw629 => k0_hw629
def k0_off728 (k0_t60 : Fin k0_t60_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v494 : BitVec 32 := Scalar.addi v461 c64_i32_293
  let v495 : Index := Scalar.indexCast v494
  ![v495.toNat]

def k0_chk630 (v499 : IVec S16 32) : Prop :=
  (∀ a x, ((![v499] : Fin 1 → IVec S16 32) a x).toNat < S100000.size a)
instance k0_chk630.dec : ∀ (v499 : IVec S16 32), Decidable (k0_chk630 v499) := fun v499 => decidable_of_iff' _ (Iff.of_eq (k0_chk630.eq_1 v499))
theorem k0_idx630_inb : ∀ (v499 : IVec S16 32) (k0_hw630 : k0_chk630 v499), ∀ a x, ((![v499] : Fin 1 → IVec S16 32) a x).toNat < S100000.size a := fun v499 k0_hw630 => k0_hw630
def k0_off729 (k0_t60 : Fin k0_t60_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v501 : BitVec 32 := Scalar.addi v461 c80_i32_294
  let v502 : Index := Scalar.indexCast v501
  ![v502.toNat]

def k0_chk631 (v506 : IVec S16 32) : Prop :=
  (∀ a x, ((![v506] : Fin 1 → IVec S16 32) a x).toNat < S100000.size a)
instance k0_chk631.dec : ∀ (v506 : IVec S16 32), Decidable (k0_chk631 v506) := fun v506 => decidable_of_iff' _ (Iff.of_eq (k0_chk631.eq_1 v506))
theorem k0_idx631_inb : ∀ (v506 : IVec S16 32) (k0_hw631 : k0_chk631 v506), ∀ a x, ((![v506] : Fin 1 → IVec S16 32) a x).toNat < S100000.size a := fun v506 k0_hw631 => k0_hw631
def k0_off730 (k0_t60 : Fin k0_t60_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v508 : BitVec 32 := Scalar.addi v461 c96_i32_295
  let v509 : Index := Scalar.indexCast v508
  ![v509.toNat]

def k0_chk632 (v513 : IVec S16 32) : Prop :=
  (∀ a x, ((![v513] : Fin 1 → IVec S16 32) a x).toNat < S100000.size a)
instance k0_chk632.dec : ∀ (v513 : IVec S16 32), Decidable (k0_chk632 v513) := fun v513 => decidable_of_iff' _ (Iff.of_eq (k0_chk632.eq_1 v513))
theorem k0_idx632_inb : ∀ (v513 : IVec S16 32) (k0_hw632 : k0_chk632 v513), ∀ a x, ((![v513] : Fin 1 → IVec S16 32) a x).toNat < S100000.size a := fun v513 k0_hw632 => k0_hw632
def k0_off731 (k0_t60 : Fin k0_t60_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v515 : BitVec 32 := Scalar.addi v461 c112_i32_296
  let v516 : Index := Scalar.indexCast v515
  ![v516.toNat]

def k0_chk633 (v520 : IVec S16 32) : Prop :=
  (∀ a x, ((![v520] : Fin 1 → IVec S16 32) a x).toNat < S100000.size a)
instance k0_chk633.dec : ∀ (v520 : IVec S16 32), Decidable (k0_chk633 v520) := fun v520 => decidable_of_iff' _ (Iff.of_eq (k0_chk633.eq_1 v520))
theorem k0_idx633_inb : ∀ (v520 : IVec S16 32) (k0_hw633 : k0_chk633 v520), ∀ a x, ((![v520] : Fin 1 → IVec S16 32) a x).toNat < S100000.size a := fun v520 k0_hw633 => k0_hw633
def k0_off732 (k0_t60 : Fin k0_t60_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v522 : BitVec 32 := Scalar.addi v461 c128_i32_297
  let v523 : Index := Scalar.indexCast v522
  ![v523.toNat]

def k0_chk634 (v527 : IVec S16 32) : Prop :=
  (∀ a x, ((![v527] : Fin 1 → IVec S16 32) a x).toNat < S100000.size a)
instance k0_chk634.dec : ∀ (v527 : IVec S16 32), Decidable (k0_chk634 v527) := fun v527 => decidable_of_iff' _ (Iff.of_eq (k0_chk634.eq_1 v527))
theorem k0_idx634_inb : ∀ (v527 : IVec S16 32) (k0_hw634 : k0_chk634 v527), ∀ a x, ((![v527] : Fin 1 → IVec S16 32) a x).toNat < S100000.size a := fun v527 k0_hw634 => k0_hw634
def k0_off733 (k0_t60 : Fin k0_t60_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v529 : BitVec 32 := Scalar.addi v461 c144_i32_299
  let v530 : Index := Scalar.indexCast v529
  ![v530.toNat]

def k0_chk635 (v534 : IVec S16 32) : Prop :=
  (∀ a x, ((![v534] : Fin 1 → IVec S16 32) a x).toNat < S100000.size a)
instance k0_chk635.dec : ∀ (v534 : IVec S16 32), Decidable (k0_chk635 v534) := fun v534 => decidable_of_iff' _ (Iff.of_eq (k0_chk635.eq_1 v534))
theorem k0_idx635_inb : ∀ (v534 : IVec S16 32) (k0_hw635 : k0_chk635 v534), ∀ a x, ((![v534] : Fin 1 → IVec S16 32) a x).toNat < S100000.size a := fun v534 k0_hw635 => k0_hw635
def k0_off734 (k0_t60 : Fin k0_t60_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v536 : BitVec 32 := Scalar.addi v461 c160_i32_300
  let v537 : Index := Scalar.indexCast v536
  ![v537.toNat]

def k0_chk636 (v541 : IVec S16 32) : Prop :=
  (∀ a x, ((![v541] : Fin 1 → IVec S16 32) a x).toNat < S100000.size a)
instance k0_chk636.dec : ∀ (v541 : IVec S16 32), Decidable (k0_chk636 v541) := fun v541 => decidable_of_iff' _ (Iff.of_eq (k0_chk636.eq_1 v541))
theorem k0_idx636_inb : ∀ (v541 : IVec S16 32) (k0_hw636 : k0_chk636 v541), ∀ a x, ((![v541] : Fin 1 → IVec S16 32) a x).toNat < S100000.size a := fun v541 k0_hw636 => k0_hw636
def k0_off735 (k0_t60 : Fin k0_t60_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v543 : BitVec 32 := Scalar.addi v461 c176_i32_301
  let v544 : Index := Scalar.indexCast v543
  ![v544.toNat]

def k0_chk637 (v548 : IVec S16 32) : Prop :=
  (∀ a x, ((![v548] : Fin 1 → IVec S16 32) a x).toNat < S100000.size a)
instance k0_chk637.dec : ∀ (v548 : IVec S16 32), Decidable (k0_chk637 v548) := fun v548 => decidable_of_iff' _ (Iff.of_eq (k0_chk637.eq_1 v548))
theorem k0_idx637_inb : ∀ (v548 : IVec S16 32) (k0_hw637 : k0_chk637 v548), ∀ a x, ((![v548] : Fin 1 → IVec S16 32) a x).toNat < S100000.size a := fun v548 k0_hw637 => k0_hw637
def k0_off736 (k0_t60 : Fin k0_t60_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v550 : BitVec 32 := Scalar.addi v461 c192_i32_302
  let v551 : Index := Scalar.indexCast v550
  ![v551.toNat]

def k0_chk638 (v555 : IVec S16 32) : Prop :=
  (∀ a x, ((![v555] : Fin 1 → IVec S16 32) a x).toNat < S100000.size a)
instance k0_chk638.dec : ∀ (v555 : IVec S16 32), Decidable (k0_chk638 v555) := fun v555 => decidable_of_iff' _ (Iff.of_eq (k0_chk638.eq_1 v555))
theorem k0_idx638_inb : ∀ (v555 : IVec S16 32) (k0_hw638 : k0_chk638 v555), ∀ a x, ((![v555] : Fin 1 → IVec S16 32) a x).toNat < S100000.size a := fun v555 k0_hw638 => k0_hw638
def k0_off737 (k0_t60 : Fin k0_t60_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v557 : BitVec 32 := Scalar.addi v461 c208_i32_303
  let v558 : Index := Scalar.indexCast v557
  ![v558.toNat]

def k0_chk639 (v562 : IVec S16 32) : Prop :=
  (∀ a x, ((![v562] : Fin 1 → IVec S16 32) a x).toNat < S100000.size a)
instance k0_chk639.dec : ∀ (v562 : IVec S16 32), Decidable (k0_chk639 v562) := fun v562 => decidable_of_iff' _ (Iff.of_eq (k0_chk639.eq_1 v562))
theorem k0_idx639_inb : ∀ (v562 : IVec S16 32) (k0_hw639 : k0_chk639 v562), ∀ a x, ((![v562] : Fin 1 → IVec S16 32) a x).toNat < S100000.size a := fun v562 k0_hw639 => k0_hw639
def k0_off738 (k0_t60 : Fin k0_t60_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let v564 : BitVec 32 := Scalar.addi v461 c224_i32_304
  let v565 : Index := Scalar.indexCast v564
  ![v565.toNat]

def k0_chk640 (v569 : IVec S16 32) : Prop :=
  (∀ a x, ((![v569] : Fin 1 → IVec S16 32) a x).toNat < S100000.size a)
instance k0_chk640.dec : ∀ (v569 : IVec S16 32), Decidable (k0_chk640 v569) := fun v569 => decidable_of_iff' _ (Iff.of_eq (k0_chk640.eq_1 v569))
theorem k0_idx640_inb : ∀ (v569 : IVec S16 32) (k0_hw640 : k0_chk640 v569), ∀ a x, ((![v569] : Fin 1 → IVec S16 32) a x).toNat < S100000.size a := fun v569 k0_hw640 => k0_hw640
def k0_off739 (k0_t60 : Fin k0_t60_loop.trips) : Fin 1 → Nat :=
  let c0_i32_281 : BitVec 32 := 0#32
  let c1_i32_283 : BitVec 32 := 1#32
  let arg36 : BitVec 32 := Scf.iv c0_i32_281 c1_i32_283 k0_t60
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off740 (i : grid0.Coords) (k0_t58 : Fin (k0_t58_loop i).trips) : Fin 2 → Nat :=
  let c324_i32_285 : BitVec 32 := 324#32
  let c36_i32_105 : BitVec 32 := 36#32
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c324_i32 : BitVec 32 := 324#32
  let v183 : BitVec 32 := Scalar.subi v19 c324_i32
  let v184 : BitVec 32 := Scalar.maxsi c0_i32_104 v183
  let v185 : BitVec 32 := Scalar.minsi c36_i32_105 v184
  let c36_i32_108 : BitVec 32 := 36#32
  let c0_i32_107 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c324_i32_106 : BitVec 32 := 324#32
  let v186 : BitVec 32 := Scalar.subi v38 c324_i32_106
  let v187 : BitVec 32 := Scalar.maxsi c0_i32_107 v186
  let v188 : BitVec 32 := Scalar.minsi c36_i32_108 v187
  let v192 : BitVec 32 := Scalar.subi v188 v185
  let c1_i32_111 : BitVec 32 := 1#32
  let v194 : BitVec 32 := Scalar.divsi v192 c1_i32_111
  let v195 : BitVec 32 := Scalar.muli v194 c1_i32_111
  let v196 : BitVec 32 := Scalar.addi v185 v195
  let c1_i32_113 : BitVec 32 := 1#32
  let arg34 : BitVec 32 := Scf.iv v196 c1_i32_113 k0_t58
  let v460 : BitVec 32 := Scalar.addi c324_i32_285 arg34
  let c8192_i32_r79 : BitVec 32 := 8192#32
  ![v460.toNat, 8192]
@[reducible] def k0_t61_loop (i : grid0.Coords) : Scf.Loop 32 :=
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c36_i32_118 : BitVec 32 := 36#32
  let c0_i32_117 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c360_i32_116 : BitVec 32 := 360#32
  let v202 : BitVec 32 := Scalar.subi v38 c360_i32_116
  let v203 : BitVec 32 := Scalar.maxsi c0_i32_117 v202
  let v204 : BitVec 32 := Scalar.minsi c36_i32_118 v203
  let v208 : BitVec 32 := Scalar.subi v204 v201
  let c1_i32_121 : BitVec 32 := 1#32
  let v210 : BitVec 32 := Scalar.divsi v208 c1_i32_121
  let v211 : BitVec 32 := Scalar.muli v210 c1_i32_121
  let v212 : BitVec 32 := Scalar.addi v201 v211
  let c1_i32_122 : BitVec 32 := 1#32
  ⟨v201, v212, c1_i32_122⟩
def k0_off741 (i : grid0.Coords) (k0_t61 : Fin (k0_t61_loop i).trips) : Fin 2 → Nat :=
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c1_i32_122 : BitVec 32 := 1#32
  let arg34 : BitVec 32 := Scf.iv v201 c1_i32_122 k0_t61
  let c0_i32_287_r82 : BitVec 32 := 0#32
  ![arg34.toNat, 0]
@[reducible] def k0_t62_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off742 (k0_t62 : Fin k0_t62_loop.trips) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk641 (v464 : IVec S16 32) : Prop :=
  (∀ a x, ((![v464] : Fin 1 → IVec S16 32) a x).toNat < S100000.size a)
instance k0_chk641.dec : ∀ (v464 : IVec S16 32), Decidable (k0_chk641 v464) := fun v464 => decidable_of_iff' _ (Iff.of_eq (k0_chk641.eq_1 v464))
theorem k0_idx641_inb : ∀ (v464 : IVec S16 32) (k0_hw641 : k0_chk641 v464), ∀ a x, ((![v464] : Fin 1 → IVec S16 32) a x).toNat < S100000.size a := fun v464 k0_hw641 => k0_hw641
def k0_off743 (k0_t62 : Fin k0_t62_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v466 : BitVec 32 := Scalar.addi v461 c0_i32_288
  let v467 : Index := Scalar.indexCast v466
  ![v467.toNat]

def k0_chk642 (v471 : IVec S16 32) : Prop :=
  (∀ a x, ((![v471] : Fin 1 → IVec S16 32) a x).toNat < S100000.size a)
instance k0_chk642.dec : ∀ (v471 : IVec S16 32), Decidable (k0_chk642 v471) := fun v471 => decidable_of_iff' _ (Iff.of_eq (k0_chk642.eq_1 v471))
theorem k0_idx642_inb : ∀ (v471 : IVec S16 32) (k0_hw642 : k0_chk642 v471), ∀ a x, ((![v471] : Fin 1 → IVec S16 32) a x).toNat < S100000.size a := fun v471 k0_hw642 => k0_hw642
def k0_off744 (k0_t62 : Fin k0_t62_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v473 : BitVec 32 := Scalar.addi v461 c16_i32_289
  let v474 : Index := Scalar.indexCast v473
  ![v474.toNat]

def k0_chk643 (v478 : IVec S16 32) : Prop :=
  (∀ a x, ((![v478] : Fin 1 → IVec S16 32) a x).toNat < S100000.size a)
instance k0_chk643.dec : ∀ (v478 : IVec S16 32), Decidable (k0_chk643 v478) := fun v478 => decidable_of_iff' _ (Iff.of_eq (k0_chk643.eq_1 v478))
theorem k0_idx643_inb : ∀ (v478 : IVec S16 32) (k0_hw643 : k0_chk643 v478), ∀ a x, ((![v478] : Fin 1 → IVec S16 32) a x).toNat < S100000.size a := fun v478 k0_hw643 => k0_hw643
def k0_off745 (k0_t62 : Fin k0_t62_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v480 : BitVec 32 := Scalar.addi v461 c32_i32_291
  let v481 : Index := Scalar.indexCast v480
  ![v481.toNat]

def k0_chk644 (v485 : IVec S16 32) : Prop :=
  (∀ a x, ((![v485] : Fin 1 → IVec S16 32) a x).toNat < S100000.size a)
instance k0_chk644.dec : ∀ (v485 : IVec S16 32), Decidable (k0_chk644 v485) := fun v485 => decidable_of_iff' _ (Iff.of_eq (k0_chk644.eq_1 v485))
theorem k0_idx644_inb : ∀ (v485 : IVec S16 32) (k0_hw644 : k0_chk644 v485), ∀ a x, ((![v485] : Fin 1 → IVec S16 32) a x).toNat < S100000.size a := fun v485 k0_hw644 => k0_hw644
def k0_off746 (k0_t62 : Fin k0_t62_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v487 : BitVec 32 := Scalar.addi v461 c48_i32_292
  let v488 : Index := Scalar.indexCast v487
  ![v488.toNat]

def k0_chk645 (v492 : IVec S16 32) : Prop :=
  (∀ a x, ((![v492] : Fin 1 → IVec S16 32) a x).toNat < S100000.size a)
instance k0_chk645.dec : ∀ (v492 : IVec S16 32), Decidable (k0_chk645 v492) := fun v492 => decidable_of_iff' _ (Iff.of_eq (k0_chk645.eq_1 v492))
theorem k0_idx645_inb : ∀ (v492 : IVec S16 32) (k0_hw645 : k0_chk645 v492), ∀ a x, ((![v492] : Fin 1 → IVec S16 32) a x).toNat < S100000.size a := fun v492 k0_hw645 => k0_hw645
def k0_off747 (k0_t62 : Fin k0_t62_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v494 : BitVec 32 := Scalar.addi v461 c64_i32_293
  let v495 : Index := Scalar.indexCast v494
  ![v495.toNat]

def k0_chk646 (v499 : IVec S16 32) : Prop :=
  (∀ a x, ((![v499] : Fin 1 → IVec S16 32) a x).toNat < S100000.size a)
instance k0_chk646.dec : ∀ (v499 : IVec S16 32), Decidable (k0_chk646 v499) := fun v499 => decidable_of_iff' _ (Iff.of_eq (k0_chk646.eq_1 v499))
theorem k0_idx646_inb : ∀ (v499 : IVec S16 32) (k0_hw646 : k0_chk646 v499), ∀ a x, ((![v499] : Fin 1 → IVec S16 32) a x).toNat < S100000.size a := fun v499 k0_hw646 => k0_hw646
def k0_off748 (k0_t62 : Fin k0_t62_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v501 : BitVec 32 := Scalar.addi v461 c80_i32_294
  let v502 : Index := Scalar.indexCast v501
  ![v502.toNat]

def k0_chk647 (v506 : IVec S16 32) : Prop :=
  (∀ a x, ((![v506] : Fin 1 → IVec S16 32) a x).toNat < S100000.size a)
instance k0_chk647.dec : ∀ (v506 : IVec S16 32), Decidable (k0_chk647 v506) := fun v506 => decidable_of_iff' _ (Iff.of_eq (k0_chk647.eq_1 v506))
theorem k0_idx647_inb : ∀ (v506 : IVec S16 32) (k0_hw647 : k0_chk647 v506), ∀ a x, ((![v506] : Fin 1 → IVec S16 32) a x).toNat < S100000.size a := fun v506 k0_hw647 => k0_hw647
def k0_off749 (k0_t62 : Fin k0_t62_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v508 : BitVec 32 := Scalar.addi v461 c96_i32_295
  let v509 : Index := Scalar.indexCast v508
  ![v509.toNat]

def k0_chk648 (v513 : IVec S16 32) : Prop :=
  (∀ a x, ((![v513] : Fin 1 → IVec S16 32) a x).toNat < S100000.size a)
instance k0_chk648.dec : ∀ (v513 : IVec S16 32), Decidable (k0_chk648 v513) := fun v513 => decidable_of_iff' _ (Iff.of_eq (k0_chk648.eq_1 v513))
theorem k0_idx648_inb : ∀ (v513 : IVec S16 32) (k0_hw648 : k0_chk648 v513), ∀ a x, ((![v513] : Fin 1 → IVec S16 32) a x).toNat < S100000.size a := fun v513 k0_hw648 => k0_hw648
def k0_off750 (k0_t62 : Fin k0_t62_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v515 : BitVec 32 := Scalar.addi v461 c112_i32_296
  let v516 : Index := Scalar.indexCast v515
  ![v516.toNat]

def k0_chk649 (v520 : IVec S16 32) : Prop :=
  (∀ a x, ((![v520] : Fin 1 → IVec S16 32) a x).toNat < S100000.size a)
instance k0_chk649.dec : ∀ (v520 : IVec S16 32), Decidable (k0_chk649 v520) := fun v520 => decidable_of_iff' _ (Iff.of_eq (k0_chk649.eq_1 v520))
theorem k0_idx649_inb : ∀ (v520 : IVec S16 32) (k0_hw649 : k0_chk649 v520), ∀ a x, ((![v520] : Fin 1 → IVec S16 32) a x).toNat < S100000.size a := fun v520 k0_hw649 => k0_hw649
def k0_off751 (k0_t62 : Fin k0_t62_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v522 : BitVec 32 := Scalar.addi v461 c128_i32_297
  let v523 : Index := Scalar.indexCast v522
  ![v523.toNat]

def k0_chk650 (v527 : IVec S16 32) : Prop :=
  (∀ a x, ((![v527] : Fin 1 → IVec S16 32) a x).toNat < S100000.size a)
instance k0_chk650.dec : ∀ (v527 : IVec S16 32), Decidable (k0_chk650 v527) := fun v527 => decidable_of_iff' _ (Iff.of_eq (k0_chk650.eq_1 v527))
theorem k0_idx650_inb : ∀ (v527 : IVec S16 32) (k0_hw650 : k0_chk650 v527), ∀ a x, ((![v527] : Fin 1 → IVec S16 32) a x).toNat < S100000.size a := fun v527 k0_hw650 => k0_hw650
def k0_off752 (k0_t62 : Fin k0_t62_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v529 : BitVec 32 := Scalar.addi v461 c144_i32_299
  let v530 : Index := Scalar.indexCast v529
  ![v530.toNat]

def k0_chk651 (v534 : IVec S16 32) : Prop :=
  (∀ a x, ((![v534] : Fin 1 → IVec S16 32) a x).toNat < S100000.size a)
instance k0_chk651.dec : ∀ (v534 : IVec S16 32), Decidable (k0_chk651 v534) := fun v534 => decidable_of_iff' _ (Iff.of_eq (k0_chk651.eq_1 v534))
theorem k0_idx651_inb : ∀ (v534 : IVec S16 32) (k0_hw651 : k0_chk651 v534), ∀ a x, ((![v534] : Fin 1 → IVec S16 32) a x).toNat < S100000.size a := fun v534 k0_hw651 => k0_hw651
def k0_off753 (k0_t62 : Fin k0_t62_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v536 : BitVec 32 := Scalar.addi v461 c160_i32_300
  let v537 : Index := Scalar.indexCast v536
  ![v537.toNat]

def k0_chk652 (v541 : IVec S16 32) : Prop :=
  (∀ a x, ((![v541] : Fin 1 → IVec S16 32) a x).toNat < S100000.size a)
instance k0_chk652.dec : ∀ (v541 : IVec S16 32), Decidable (k0_chk652 v541) := fun v541 => decidable_of_iff' _ (Iff.of_eq (k0_chk652.eq_1 v541))
theorem k0_idx652_inb : ∀ (v541 : IVec S16 32) (k0_hw652 : k0_chk652 v541), ∀ a x, ((![v541] : Fin 1 → IVec S16 32) a x).toNat < S100000.size a := fun v541 k0_hw652 => k0_hw652
def k0_off754 (k0_t62 : Fin k0_t62_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v543 : BitVec 32 := Scalar.addi v461 c176_i32_301
  let v544 : Index := Scalar.indexCast v543
  ![v544.toNat]

def k0_chk653 (v548 : IVec S16 32) : Prop :=
  (∀ a x, ((![v548] : Fin 1 → IVec S16 32) a x).toNat < S100000.size a)
instance k0_chk653.dec : ∀ (v548 : IVec S16 32), Decidable (k0_chk653 v548) := fun v548 => decidable_of_iff' _ (Iff.of_eq (k0_chk653.eq_1 v548))
theorem k0_idx653_inb : ∀ (v548 : IVec S16 32) (k0_hw653 : k0_chk653 v548), ∀ a x, ((![v548] : Fin 1 → IVec S16 32) a x).toNat < S100000.size a := fun v548 k0_hw653 => k0_hw653
def k0_off755 (k0_t62 : Fin k0_t62_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v550 : BitVec 32 := Scalar.addi v461 c192_i32_302
  let v551 : Index := Scalar.indexCast v550
  ![v551.toNat]

def k0_chk654 (v555 : IVec S16 32) : Prop :=
  (∀ a x, ((![v555] : Fin 1 → IVec S16 32) a x).toNat < S100000.size a)
instance k0_chk654.dec : ∀ (v555 : IVec S16 32), Decidable (k0_chk654 v555) := fun v555 => decidable_of_iff' _ (Iff.of_eq (k0_chk654.eq_1 v555))
theorem k0_idx654_inb : ∀ (v555 : IVec S16 32) (k0_hw654 : k0_chk654 v555), ∀ a x, ((![v555] : Fin 1 → IVec S16 32) a x).toNat < S100000.size a := fun v555 k0_hw654 => k0_hw654
def k0_off756 (k0_t62 : Fin k0_t62_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v557 : BitVec 32 := Scalar.addi v461 c208_i32_303
  let v558 : Index := Scalar.indexCast v557
  ![v558.toNat]

def k0_chk655 (v562 : IVec S16 32) : Prop :=
  (∀ a x, ((![v562] : Fin 1 → IVec S16 32) a x).toNat < S100000.size a)
instance k0_chk655.dec : ∀ (v562 : IVec S16 32), Decidable (k0_chk655 v562) := fun v562 => decidable_of_iff' _ (Iff.of_eq (k0_chk655.eq_1 v562))
theorem k0_idx655_inb : ∀ (v562 : IVec S16 32) (k0_hw655 : k0_chk655 v562), ∀ a x, ((![v562] : Fin 1 → IVec S16 32) a x).toNat < S100000.size a := fun v562 k0_hw655 => k0_hw655
def k0_off757 (k0_t62 : Fin k0_t62_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let v564 : BitVec 32 := Scalar.addi v461 c224_i32_304
  let v565 : Index := Scalar.indexCast v564
  ![v565.toNat]

def k0_chk656 (v569 : IVec S16 32) : Prop :=
  (∀ a x, ((![v569] : Fin 1 → IVec S16 32) a x).toNat < S100000.size a)
instance k0_chk656.dec : ∀ (v569 : IVec S16 32), Decidable (k0_chk656 v569) := fun v569 => decidable_of_iff' _ (Iff.of_eq (k0_chk656.eq_1 v569))
theorem k0_idx656_inb : ∀ (v569 : IVec S16 32) (k0_hw656 : k0_chk656 v569), ∀ a x, ((![v569] : Fin 1 → IVec S16 32) a x).toNat < S100000.size a := fun v569 k0_hw656 => k0_hw656
def k0_off758 (k0_t62 : Fin k0_t62_loop.trips) : Fin 1 → Nat :=
  let c0_i32_275 : BitVec 32 := 0#32
  let c1_i32_277 : BitVec 32 := 1#32
  let arg36 : BitVec 32 := Scf.iv c0_i32_275 c1_i32_277 k0_t62
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off759 (i : grid0.Coords) (k0_t61 : Fin (k0_t61_loop i).trips) : Fin 2 → Nat :=
  let c360_i32_279 : BitVec 32 := 360#32
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c1_i32_122 : BitVec 32 := 1#32
  let arg34 : BitVec 32 := Scf.iv v201 c1_i32_122 k0_t61
  let v457 : BitVec 32 := Scalar.addi c360_i32_279 arg34
  let c0_i32_287_r83 : BitVec 32 := 0#32
  ![v457.toNat, 0]
@[reducible] def k0_t63_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off760 (k0_t63 : Fin k0_t63_loop.trips) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk657 (v464 : IVec S16 32) : Prop :=
  (∀ a x, ((![v464] : Fin 1 → IVec S16 32) a x).toNat < S100000.size a)
instance k0_chk657.dec : ∀ (v464 : IVec S16 32), Decidable (k0_chk657 v464) := fun v464 => decidable_of_iff' _ (Iff.of_eq (k0_chk657.eq_1 v464))
theorem k0_idx657_inb : ∀ (v464 : IVec S16 32) (k0_hw657 : k0_chk657 v464), ∀ a x, ((![v464] : Fin 1 → IVec S16 32) a x).toNat < S100000.size a := fun v464 k0_hw657 => k0_hw657
def k0_off761 (k0_t63 : Fin k0_t63_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v466 : BitVec 32 := Scalar.addi v461 c0_i32_288
  let v467 : Index := Scalar.indexCast v466
  ![v467.toNat]

def k0_chk658 (v471 : IVec S16 32) : Prop :=
  (∀ a x, ((![v471] : Fin 1 → IVec S16 32) a x).toNat < S100000.size a)
instance k0_chk658.dec : ∀ (v471 : IVec S16 32), Decidable (k0_chk658 v471) := fun v471 => decidable_of_iff' _ (Iff.of_eq (k0_chk658.eq_1 v471))
theorem k0_idx658_inb : ∀ (v471 : IVec S16 32) (k0_hw658 : k0_chk658 v471), ∀ a x, ((![v471] : Fin 1 → IVec S16 32) a x).toNat < S100000.size a := fun v471 k0_hw658 => k0_hw658
def k0_off762 (k0_t63 : Fin k0_t63_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v473 : BitVec 32 := Scalar.addi v461 c16_i32_289
  let v474 : Index := Scalar.indexCast v473
  ![v474.toNat]

def k0_chk659 (v478 : IVec S16 32) : Prop :=
  (∀ a x, ((![v478] : Fin 1 → IVec S16 32) a x).toNat < S100000.size a)
instance k0_chk659.dec : ∀ (v478 : IVec S16 32), Decidable (k0_chk659 v478) := fun v478 => decidable_of_iff' _ (Iff.of_eq (k0_chk659.eq_1 v478))
theorem k0_idx659_inb : ∀ (v478 : IVec S16 32) (k0_hw659 : k0_chk659 v478), ∀ a x, ((![v478] : Fin 1 → IVec S16 32) a x).toNat < S100000.size a := fun v478 k0_hw659 => k0_hw659
def k0_off763 (k0_t63 : Fin k0_t63_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v480 : BitVec 32 := Scalar.addi v461 c32_i32_291
  let v481 : Index := Scalar.indexCast v480
  ![v481.toNat]

def k0_chk660 (v485 : IVec S16 32) : Prop :=
  (∀ a x, ((![v485] : Fin 1 → IVec S16 32) a x).toNat < S100000.size a)
instance k0_chk660.dec : ∀ (v485 : IVec S16 32), Decidable (k0_chk660 v485) := fun v485 => decidable_of_iff' _ (Iff.of_eq (k0_chk660.eq_1 v485))
theorem k0_idx660_inb : ∀ (v485 : IVec S16 32) (k0_hw660 : k0_chk660 v485), ∀ a x, ((![v485] : Fin 1 → IVec S16 32) a x).toNat < S100000.size a := fun v485 k0_hw660 => k0_hw660
def k0_off764 (k0_t63 : Fin k0_t63_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v487 : BitVec 32 := Scalar.addi v461 c48_i32_292
  let v488 : Index := Scalar.indexCast v487
  ![v488.toNat]

def k0_chk661 (v492 : IVec S16 32) : Prop :=
  (∀ a x, ((![v492] : Fin 1 → IVec S16 32) a x).toNat < S100000.size a)
instance k0_chk661.dec : ∀ (v492 : IVec S16 32), Decidable (k0_chk661 v492) := fun v492 => decidable_of_iff' _ (Iff.of_eq (k0_chk661.eq_1 v492))
theorem k0_idx661_inb : ∀ (v492 : IVec S16 32) (k0_hw661 : k0_chk661 v492), ∀ a x, ((![v492] : Fin 1 → IVec S16 32) a x).toNat < S100000.size a := fun v492 k0_hw661 => k0_hw661
def k0_off765 (k0_t63 : Fin k0_t63_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v494 : BitVec 32 := Scalar.addi v461 c64_i32_293
  let v495 : Index := Scalar.indexCast v494
  ![v495.toNat]

def k0_chk662 (v499 : IVec S16 32) : Prop :=
  (∀ a x, ((![v499] : Fin 1 → IVec S16 32) a x).toNat < S100000.size a)
instance k0_chk662.dec : ∀ (v499 : IVec S16 32), Decidable (k0_chk662 v499) := fun v499 => decidable_of_iff' _ (Iff.of_eq (k0_chk662.eq_1 v499))
theorem k0_idx662_inb : ∀ (v499 : IVec S16 32) (k0_hw662 : k0_chk662 v499), ∀ a x, ((![v499] : Fin 1 → IVec S16 32) a x).toNat < S100000.size a := fun v499 k0_hw662 => k0_hw662
def k0_off766 (k0_t63 : Fin k0_t63_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v501 : BitVec 32 := Scalar.addi v461 c80_i32_294
  let v502 : Index := Scalar.indexCast v501
  ![v502.toNat]

def k0_chk663 (v506 : IVec S16 32) : Prop :=
  (∀ a x, ((![v506] : Fin 1 → IVec S16 32) a x).toNat < S100000.size a)
instance k0_chk663.dec : ∀ (v506 : IVec S16 32), Decidable (k0_chk663 v506) := fun v506 => decidable_of_iff' _ (Iff.of_eq (k0_chk663.eq_1 v506))
theorem k0_idx663_inb : ∀ (v506 : IVec S16 32) (k0_hw663 : k0_chk663 v506), ∀ a x, ((![v506] : Fin 1 → IVec S16 32) a x).toNat < S100000.size a := fun v506 k0_hw663 => k0_hw663
def k0_off767 (k0_t63 : Fin k0_t63_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v508 : BitVec 32 := Scalar.addi v461 c96_i32_295
  let v509 : Index := Scalar.indexCast v508
  ![v509.toNat]

def k0_chk664 (v513 : IVec S16 32) : Prop :=
  (∀ a x, ((![v513] : Fin 1 → IVec S16 32) a x).toNat < S100000.size a)
instance k0_chk664.dec : ∀ (v513 : IVec S16 32), Decidable (k0_chk664 v513) := fun v513 => decidable_of_iff' _ (Iff.of_eq (k0_chk664.eq_1 v513))
theorem k0_idx664_inb : ∀ (v513 : IVec S16 32) (k0_hw664 : k0_chk664 v513), ∀ a x, ((![v513] : Fin 1 → IVec S16 32) a x).toNat < S100000.size a := fun v513 k0_hw664 => k0_hw664
def k0_off768 (k0_t63 : Fin k0_t63_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v515 : BitVec 32 := Scalar.addi v461 c112_i32_296
  let v516 : Index := Scalar.indexCast v515
  ![v516.toNat]

def k0_chk665 (v520 : IVec S16 32) : Prop :=
  (∀ a x, ((![v520] : Fin 1 → IVec S16 32) a x).toNat < S100000.size a)
instance k0_chk665.dec : ∀ (v520 : IVec S16 32), Decidable (k0_chk665 v520) := fun v520 => decidable_of_iff' _ (Iff.of_eq (k0_chk665.eq_1 v520))
theorem k0_idx665_inb : ∀ (v520 : IVec S16 32) (k0_hw665 : k0_chk665 v520), ∀ a x, ((![v520] : Fin 1 → IVec S16 32) a x).toNat < S100000.size a := fun v520 k0_hw665 => k0_hw665
def k0_off769 (k0_t63 : Fin k0_t63_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v522 : BitVec 32 := Scalar.addi v461 c128_i32_297
  let v523 : Index := Scalar.indexCast v522
  ![v523.toNat]

def k0_chk666 (v527 : IVec S16 32) : Prop :=
  (∀ a x, ((![v527] : Fin 1 → IVec S16 32) a x).toNat < S100000.size a)
instance k0_chk666.dec : ∀ (v527 : IVec S16 32), Decidable (k0_chk666 v527) := fun v527 => decidable_of_iff' _ (Iff.of_eq (k0_chk666.eq_1 v527))
theorem k0_idx666_inb : ∀ (v527 : IVec S16 32) (k0_hw666 : k0_chk666 v527), ∀ a x, ((![v527] : Fin 1 → IVec S16 32) a x).toNat < S100000.size a := fun v527 k0_hw666 => k0_hw666
def k0_off770 (k0_t63 : Fin k0_t63_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v529 : BitVec 32 := Scalar.addi v461 c144_i32_299
  let v530 : Index := Scalar.indexCast v529
  ![v530.toNat]

def k0_chk667 (v534 : IVec S16 32) : Prop :=
  (∀ a x, ((![v534] : Fin 1 → IVec S16 32) a x).toNat < S100000.size a)
instance k0_chk667.dec : ∀ (v534 : IVec S16 32), Decidable (k0_chk667 v534) := fun v534 => decidable_of_iff' _ (Iff.of_eq (k0_chk667.eq_1 v534))
theorem k0_idx667_inb : ∀ (v534 : IVec S16 32) (k0_hw667 : k0_chk667 v534), ∀ a x, ((![v534] : Fin 1 → IVec S16 32) a x).toNat < S100000.size a := fun v534 k0_hw667 => k0_hw667
def k0_off771 (k0_t63 : Fin k0_t63_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v536 : BitVec 32 := Scalar.addi v461 c160_i32_300
  let v537 : Index := Scalar.indexCast v536
  ![v537.toNat]

def k0_chk668 (v541 : IVec S16 32) : Prop :=
  (∀ a x, ((![v541] : Fin 1 → IVec S16 32) a x).toNat < S100000.size a)
instance k0_chk668.dec : ∀ (v541 : IVec S16 32), Decidable (k0_chk668 v541) := fun v541 => decidable_of_iff' _ (Iff.of_eq (k0_chk668.eq_1 v541))
theorem k0_idx668_inb : ∀ (v541 : IVec S16 32) (k0_hw668 : k0_chk668 v541), ∀ a x, ((![v541] : Fin 1 → IVec S16 32) a x).toNat < S100000.size a := fun v541 k0_hw668 => k0_hw668
def k0_off772 (k0_t63 : Fin k0_t63_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v543 : BitVec 32 := Scalar.addi v461 c176_i32_301
  let v544 : Index := Scalar.indexCast v543
  ![v544.toNat]

def k0_chk669 (v548 : IVec S16 32) : Prop :=
  (∀ a x, ((![v548] : Fin 1 → IVec S16 32) a x).toNat < S100000.size a)
instance k0_chk669.dec : ∀ (v548 : IVec S16 32), Decidable (k0_chk669 v548) := fun v548 => decidable_of_iff' _ (Iff.of_eq (k0_chk669.eq_1 v548))
theorem k0_idx669_inb : ∀ (v548 : IVec S16 32) (k0_hw669 : k0_chk669 v548), ∀ a x, ((![v548] : Fin 1 → IVec S16 32) a x).toNat < S100000.size a := fun v548 k0_hw669 => k0_hw669
def k0_off773 (k0_t63 : Fin k0_t63_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v550 : BitVec 32 := Scalar.addi v461 c192_i32_302
  let v551 : Index := Scalar.indexCast v550
  ![v551.toNat]

def k0_chk670 (v555 : IVec S16 32) : Prop :=
  (∀ a x, ((![v555] : Fin 1 → IVec S16 32) a x).toNat < S100000.size a)
instance k0_chk670.dec : ∀ (v555 : IVec S16 32), Decidable (k0_chk670 v555) := fun v555 => decidable_of_iff' _ (Iff.of_eq (k0_chk670.eq_1 v555))
theorem k0_idx670_inb : ∀ (v555 : IVec S16 32) (k0_hw670 : k0_chk670 v555), ∀ a x, ((![v555] : Fin 1 → IVec S16 32) a x).toNat < S100000.size a := fun v555 k0_hw670 => k0_hw670
def k0_off774 (k0_t63 : Fin k0_t63_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v557 : BitVec 32 := Scalar.addi v461 c208_i32_303
  let v558 : Index := Scalar.indexCast v557
  ![v558.toNat]

def k0_chk671 (v562 : IVec S16 32) : Prop :=
  (∀ a x, ((![v562] : Fin 1 → IVec S16 32) a x).toNat < S100000.size a)
instance k0_chk671.dec : ∀ (v562 : IVec S16 32), Decidable (k0_chk671 v562) := fun v562 => decidable_of_iff' _ (Iff.of_eq (k0_chk671.eq_1 v562))
theorem k0_idx671_inb : ∀ (v562 : IVec S16 32) (k0_hw671 : k0_chk671 v562), ∀ a x, ((![v562] : Fin 1 → IVec S16 32) a x).toNat < S100000.size a := fun v562 k0_hw671 => k0_hw671
def k0_off775 (k0_t63 : Fin k0_t63_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let v564 : BitVec 32 := Scalar.addi v461 c224_i32_304
  let v565 : Index := Scalar.indexCast v564
  ![v565.toNat]

def k0_chk672 (v569 : IVec S16 32) : Prop :=
  (∀ a x, ((![v569] : Fin 1 → IVec S16 32) a x).toNat < S100000.size a)
instance k0_chk672.dec : ∀ (v569 : IVec S16 32), Decidable (k0_chk672 v569) := fun v569 => decidable_of_iff' _ (Iff.of_eq (k0_chk672.eq_1 v569))
theorem k0_idx672_inb : ∀ (v569 : IVec S16 32) (k0_hw672 : k0_chk672 v569), ∀ a x, ((![v569] : Fin 1 → IVec S16 32) a x).toNat < S100000.size a := fun v569 k0_hw672 => k0_hw672
def k0_off776 (k0_t63 : Fin k0_t63_loop.trips) : Fin 1 → Nat :=
  let c0_i32_281 : BitVec 32 := 0#32
  let c1_i32_283 : BitVec 32 := 1#32
  let arg36 : BitVec 32 := Scf.iv c0_i32_281 c1_i32_283 k0_t63
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off777 (i : grid0.Coords) (k0_t61 : Fin (k0_t61_loop i).trips) : Fin 2 → Nat :=
  let c360_i32_285 : BitVec 32 := 360#32
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c1_i32_122 : BitVec 32 := 1#32
  let arg34 : BitVec 32 := Scf.iv v201 c1_i32_122 k0_t61
  let v460 : BitVec 32 := Scalar.addi c360_i32_285 arg34
  let c8192_i32_r84 : BitVec 32 := 8192#32
  ![v460.toNat, 8192]
@[reducible] def k0_t64_loop (i : grid0.Coords) : Scf.Loop 32 :=
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c36_i32_118 : BitVec 32 := 36#32
  let c0_i32_117 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c360_i32_116 : BitVec 32 := 360#32
  let v202 : BitVec 32 := Scalar.subi v38 c360_i32_116
  let v203 : BitVec 32 := Scalar.maxsi c0_i32_117 v202
  let v204 : BitVec 32 := Scalar.minsi c36_i32_118 v203
  let v208 : BitVec 32 := Scalar.subi v204 v201
  let c1_i32_121 : BitVec 32 := 1#32
  let v210 : BitVec 32 := Scalar.divsi v208 c1_i32_121
  let v211 : BitVec 32 := Scalar.muli v210 c1_i32_121
  let v212 : BitVec 32 := Scalar.addi v201 v211
  let v209 : BitVec 32 := Scalar.addi v201 v208
  let c1_i32_123 : BitVec 32 := 1#32
  ⟨v212, v209, c1_i32_123⟩
def k0_off778 (i : grid0.Coords) (k0_t64 : Fin (k0_t64_loop i).trips) : Fin 2 → Nat :=
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c36_i32_118 : BitVec 32 := 36#32
  let c0_i32_117 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c360_i32_116 : BitVec 32 := 360#32
  let v202 : BitVec 32 := Scalar.subi v38 c360_i32_116
  let v203 : BitVec 32 := Scalar.maxsi c0_i32_117 v202
  let v204 : BitVec 32 := Scalar.minsi c36_i32_118 v203
  let v208 : BitVec 32 := Scalar.subi v204 v201
  let c1_i32_121 : BitVec 32 := 1#32
  let v210 : BitVec 32 := Scalar.divsi v208 c1_i32_121
  let v211 : BitVec 32 := Scalar.muli v210 c1_i32_121
  let v212 : BitVec 32 := Scalar.addi v201 v211
  let c1_i32_123 : BitVec 32 := 1#32
  let arg34 : BitVec 32 := Scf.iv v212 c1_i32_123 k0_t64
  let c0_i32_287_r85 : BitVec 32 := 0#32
  ![arg34.toNat, 0]
@[reducible] def k0_t65_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off779 (k0_t65 : Fin k0_t65_loop.trips) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk673 (v464 : IVec S16 32) : Prop :=
  (∀ a x, ((![v464] : Fin 1 → IVec S16 32) a x).toNat < S100000.size a)
instance k0_chk673.dec : ∀ (v464 : IVec S16 32), Decidable (k0_chk673 v464) := fun v464 => decidable_of_iff' _ (Iff.of_eq (k0_chk673.eq_1 v464))
theorem k0_idx673_inb : ∀ (v464 : IVec S16 32) (k0_hw673 : k0_chk673 v464), ∀ a x, ((![v464] : Fin 1 → IVec S16 32) a x).toNat < S100000.size a := fun v464 k0_hw673 => k0_hw673
def k0_off780 (k0_t65 : Fin k0_t65_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v466 : BitVec 32 := Scalar.addi v461 c0_i32_288
  let v467 : Index := Scalar.indexCast v466
  ![v467.toNat]

def k0_chk674 (v471 : IVec S16 32) : Prop :=
  (∀ a x, ((![v471] : Fin 1 → IVec S16 32) a x).toNat < S100000.size a)
instance k0_chk674.dec : ∀ (v471 : IVec S16 32), Decidable (k0_chk674 v471) := fun v471 => decidable_of_iff' _ (Iff.of_eq (k0_chk674.eq_1 v471))
theorem k0_idx674_inb : ∀ (v471 : IVec S16 32) (k0_hw674 : k0_chk674 v471), ∀ a x, ((![v471] : Fin 1 → IVec S16 32) a x).toNat < S100000.size a := fun v471 k0_hw674 => k0_hw674
def k0_off781 (k0_t65 : Fin k0_t65_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v473 : BitVec 32 := Scalar.addi v461 c16_i32_289
  let v474 : Index := Scalar.indexCast v473
  ![v474.toNat]

def k0_chk675 (v478 : IVec S16 32) : Prop :=
  (∀ a x, ((![v478] : Fin 1 → IVec S16 32) a x).toNat < S100000.size a)
instance k0_chk675.dec : ∀ (v478 : IVec S16 32), Decidable (k0_chk675 v478) := fun v478 => decidable_of_iff' _ (Iff.of_eq (k0_chk675.eq_1 v478))
theorem k0_idx675_inb : ∀ (v478 : IVec S16 32) (k0_hw675 : k0_chk675 v478), ∀ a x, ((![v478] : Fin 1 → IVec S16 32) a x).toNat < S100000.size a := fun v478 k0_hw675 => k0_hw675
def k0_off782 (k0_t65 : Fin k0_t65_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v480 : BitVec 32 := Scalar.addi v461 c32_i32_291
  let v481 : Index := Scalar.indexCast v480
  ![v481.toNat]

def k0_chk676 (v485 : IVec S16 32) : Prop :=
  (∀ a x, ((![v485] : Fin 1 → IVec S16 32) a x).toNat < S100000.size a)
instance k0_chk676.dec : ∀ (v485 : IVec S16 32), Decidable (k0_chk676 v485) := fun v485 => decidable_of_iff' _ (Iff.of_eq (k0_chk676.eq_1 v485))
theorem k0_idx676_inb : ∀ (v485 : IVec S16 32) (k0_hw676 : k0_chk676 v485), ∀ a x, ((![v485] : Fin 1 → IVec S16 32) a x).toNat < S100000.size a := fun v485 k0_hw676 => k0_hw676
def k0_off783 (k0_t65 : Fin k0_t65_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v487 : BitVec 32 := Scalar.addi v461 c48_i32_292
  let v488 : Index := Scalar.indexCast v487
  ![v488.toNat]

def k0_chk677 (v492 : IVec S16 32) : Prop :=
  (∀ a x, ((![v492] : Fin 1 → IVec S16 32) a x).toNat < S100000.size a)
instance k0_chk677.dec : ∀ (v492 : IVec S16 32), Decidable (k0_chk677 v492) := fun v492 => decidable_of_iff' _ (Iff.of_eq (k0_chk677.eq_1 v492))
theorem k0_idx677_inb : ∀ (v492 : IVec S16 32) (k0_hw677 : k0_chk677 v492), ∀ a x, ((![v492] : Fin 1 → IVec S16 32) a x).toNat < S100000.size a := fun v492 k0_hw677 => k0_hw677
def k0_off784 (k0_t65 : Fin k0_t65_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v494 : BitVec 32 := Scalar.addi v461 c64_i32_293
  let v495 : Index := Scalar.indexCast v494
  ![v495.toNat]

def k0_chk678 (v499 : IVec S16 32) : Prop :=
  (∀ a x, ((![v499] : Fin 1 → IVec S16 32) a x).toNat < S100000.size a)
instance k0_chk678.dec : ∀ (v499 : IVec S16 32), Decidable (k0_chk678 v499) := fun v499 => decidable_of_iff' _ (Iff.of_eq (k0_chk678.eq_1 v499))
theorem k0_idx678_inb : ∀ (v499 : IVec S16 32) (k0_hw678 : k0_chk678 v499), ∀ a x, ((![v499] : Fin 1 → IVec S16 32) a x).toNat < S100000.size a := fun v499 k0_hw678 => k0_hw678
def k0_off785 (k0_t65 : Fin k0_t65_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v501 : BitVec 32 := Scalar.addi v461 c80_i32_294
  let v502 : Index := Scalar.indexCast v501
  ![v502.toNat]

def k0_chk679 (v506 : IVec S16 32) : Prop :=
  (∀ a x, ((![v506] : Fin 1 → IVec S16 32) a x).toNat < S100000.size a)
instance k0_chk679.dec : ∀ (v506 : IVec S16 32), Decidable (k0_chk679 v506) := fun v506 => decidable_of_iff' _ (Iff.of_eq (k0_chk679.eq_1 v506))
theorem k0_idx679_inb : ∀ (v506 : IVec S16 32) (k0_hw679 : k0_chk679 v506), ∀ a x, ((![v506] : Fin 1 → IVec S16 32) a x).toNat < S100000.size a := fun v506 k0_hw679 => k0_hw679
def k0_off786 (k0_t65 : Fin k0_t65_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v508 : BitVec 32 := Scalar.addi v461 c96_i32_295
  let v509 : Index := Scalar.indexCast v508
  ![v509.toNat]

def k0_chk680 (v513 : IVec S16 32) : Prop :=
  (∀ a x, ((![v513] : Fin 1 → IVec S16 32) a x).toNat < S100000.size a)
instance k0_chk680.dec : ∀ (v513 : IVec S16 32), Decidable (k0_chk680 v513) := fun v513 => decidable_of_iff' _ (Iff.of_eq (k0_chk680.eq_1 v513))
theorem k0_idx680_inb : ∀ (v513 : IVec S16 32) (k0_hw680 : k0_chk680 v513), ∀ a x, ((![v513] : Fin 1 → IVec S16 32) a x).toNat < S100000.size a := fun v513 k0_hw680 => k0_hw680
def k0_off787 (k0_t65 : Fin k0_t65_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v515 : BitVec 32 := Scalar.addi v461 c112_i32_296
  let v516 : Index := Scalar.indexCast v515
  ![v516.toNat]

def k0_chk681 (v520 : IVec S16 32) : Prop :=
  (∀ a x, ((![v520] : Fin 1 → IVec S16 32) a x).toNat < S100000.size a)
instance k0_chk681.dec : ∀ (v520 : IVec S16 32), Decidable (k0_chk681 v520) := fun v520 => decidable_of_iff' _ (Iff.of_eq (k0_chk681.eq_1 v520))
theorem k0_idx681_inb : ∀ (v520 : IVec S16 32) (k0_hw681 : k0_chk681 v520), ∀ a x, ((![v520] : Fin 1 → IVec S16 32) a x).toNat < S100000.size a := fun v520 k0_hw681 => k0_hw681
def k0_off788 (k0_t65 : Fin k0_t65_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v522 : BitVec 32 := Scalar.addi v461 c128_i32_297
  let v523 : Index := Scalar.indexCast v522
  ![v523.toNat]

def k0_chk682 (v527 : IVec S16 32) : Prop :=
  (∀ a x, ((![v527] : Fin 1 → IVec S16 32) a x).toNat < S100000.size a)
instance k0_chk682.dec : ∀ (v527 : IVec S16 32), Decidable (k0_chk682 v527) := fun v527 => decidable_of_iff' _ (Iff.of_eq (k0_chk682.eq_1 v527))
theorem k0_idx682_inb : ∀ (v527 : IVec S16 32) (k0_hw682 : k0_chk682 v527), ∀ a x, ((![v527] : Fin 1 → IVec S16 32) a x).toNat < S100000.size a := fun v527 k0_hw682 => k0_hw682
def k0_off789 (k0_t65 : Fin k0_t65_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v529 : BitVec 32 := Scalar.addi v461 c144_i32_299
  let v530 : Index := Scalar.indexCast v529
  ![v530.toNat]

def k0_chk683 (v534 : IVec S16 32) : Prop :=
  (∀ a x, ((![v534] : Fin 1 → IVec S16 32) a x).toNat < S100000.size a)
instance k0_chk683.dec : ∀ (v534 : IVec S16 32), Decidable (k0_chk683 v534) := fun v534 => decidable_of_iff' _ (Iff.of_eq (k0_chk683.eq_1 v534))
theorem k0_idx683_inb : ∀ (v534 : IVec S16 32) (k0_hw683 : k0_chk683 v534), ∀ a x, ((![v534] : Fin 1 → IVec S16 32) a x).toNat < S100000.size a := fun v534 k0_hw683 => k0_hw683
def k0_off790 (k0_t65 : Fin k0_t65_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v536 : BitVec 32 := Scalar.addi v461 c160_i32_300
  let v537 : Index := Scalar.indexCast v536
  ![v537.toNat]

def k0_chk684 (v541 : IVec S16 32) : Prop :=
  (∀ a x, ((![v541] : Fin 1 → IVec S16 32) a x).toNat < S100000.size a)
instance k0_chk684.dec : ∀ (v541 : IVec S16 32), Decidable (k0_chk684 v541) := fun v541 => decidable_of_iff' _ (Iff.of_eq (k0_chk684.eq_1 v541))
theorem k0_idx684_inb : ∀ (v541 : IVec S16 32) (k0_hw684 : k0_chk684 v541), ∀ a x, ((![v541] : Fin 1 → IVec S16 32) a x).toNat < S100000.size a := fun v541 k0_hw684 => k0_hw684
def k0_off791 (k0_t65 : Fin k0_t65_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v543 : BitVec 32 := Scalar.addi v461 c176_i32_301
  let v544 : Index := Scalar.indexCast v543
  ![v544.toNat]

def k0_chk685 (v548 : IVec S16 32) : Prop :=
  (∀ a x, ((![v548] : Fin 1 → IVec S16 32) a x).toNat < S100000.size a)
instance k0_chk685.dec : ∀ (v548 : IVec S16 32), Decidable (k0_chk685 v548) := fun v548 => decidable_of_iff' _ (Iff.of_eq (k0_chk685.eq_1 v548))
theorem k0_idx685_inb : ∀ (v548 : IVec S16 32) (k0_hw685 : k0_chk685 v548), ∀ a x, ((![v548] : Fin 1 → IVec S16 32) a x).toNat < S100000.size a := fun v548 k0_hw685 => k0_hw685
def k0_off792 (k0_t65 : Fin k0_t65_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v550 : BitVec 32 := Scalar.addi v461 c192_i32_302
  let v551 : Index := Scalar.indexCast v550
  ![v551.toNat]

def k0_chk686 (v555 : IVec S16 32) : Prop :=
  (∀ a x, ((![v555] : Fin 1 → IVec S16 32) a x).toNat < S100000.size a)
instance k0_chk686.dec : ∀ (v555 : IVec S16 32), Decidable (k0_chk686 v555) := fun v555 => decidable_of_iff' _ (Iff.of_eq (k0_chk686.eq_1 v555))
theorem k0_idx686_inb : ∀ (v555 : IVec S16 32) (k0_hw686 : k0_chk686 v555), ∀ a x, ((![v555] : Fin 1 → IVec S16 32) a x).toNat < S100000.size a := fun v555 k0_hw686 => k0_hw686
def k0_off793 (k0_t65 : Fin k0_t65_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v557 : BitVec 32 := Scalar.addi v461 c208_i32_303
  let v558 : Index := Scalar.indexCast v557
  ![v558.toNat]

def k0_chk687 (v562 : IVec S16 32) : Prop :=
  (∀ a x, ((![v562] : Fin 1 → IVec S16 32) a x).toNat < S100000.size a)
instance k0_chk687.dec : ∀ (v562 : IVec S16 32), Decidable (k0_chk687 v562) := fun v562 => decidable_of_iff' _ (Iff.of_eq (k0_chk687.eq_1 v562))
theorem k0_idx687_inb : ∀ (v562 : IVec S16 32) (k0_hw687 : k0_chk687 v562), ∀ a x, ((![v562] : Fin 1 → IVec S16 32) a x).toNat < S100000.size a := fun v562 k0_hw687 => k0_hw687
def k0_off794 (k0_t65 : Fin k0_t65_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let v564 : BitVec 32 := Scalar.addi v461 c224_i32_304
  let v565 : Index := Scalar.indexCast v564
  ![v565.toNat]

def k0_chk688 (v569 : IVec S16 32) : Prop :=
  (∀ a x, ((![v569] : Fin 1 → IVec S16 32) a x).toNat < S100000.size a)
instance k0_chk688.dec : ∀ (v569 : IVec S16 32), Decidable (k0_chk688 v569) := fun v569 => decidable_of_iff' _ (Iff.of_eq (k0_chk688.eq_1 v569))
theorem k0_idx688_inb : ∀ (v569 : IVec S16 32) (k0_hw688 : k0_chk688 v569), ∀ a x, ((![v569] : Fin 1 → IVec S16 32) a x).toNat < S100000.size a := fun v569 k0_hw688 => k0_hw688
def k0_off795 (k0_t65 : Fin k0_t65_loop.trips) : Fin 1 → Nat :=
  let c0_i32_275 : BitVec 32 := 0#32
  let c1_i32_277 : BitVec 32 := 1#32
  let arg36 : BitVec 32 := Scf.iv c0_i32_275 c1_i32_277 k0_t65
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off796 (i : grid0.Coords) (k0_t64 : Fin (k0_t64_loop i).trips) : Fin 2 → Nat :=
  let c360_i32_279 : BitVec 32 := 360#32
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c36_i32_118 : BitVec 32 := 36#32
  let c0_i32_117 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c360_i32_116 : BitVec 32 := 360#32
  let v202 : BitVec 32 := Scalar.subi v38 c360_i32_116
  let v203 : BitVec 32 := Scalar.maxsi c0_i32_117 v202
  let v204 : BitVec 32 := Scalar.minsi c36_i32_118 v203
  let v208 : BitVec 32 := Scalar.subi v204 v201
  let c1_i32_121 : BitVec 32 := 1#32
  let v210 : BitVec 32 := Scalar.divsi v208 c1_i32_121
  let v211 : BitVec 32 := Scalar.muli v210 c1_i32_121
  let v212 : BitVec 32 := Scalar.addi v201 v211
  let c1_i32_123 : BitVec 32 := 1#32
  let arg34 : BitVec 32 := Scf.iv v212 c1_i32_123 k0_t64
  let v457 : BitVec 32 := Scalar.addi c360_i32_279 arg34
  let c0_i32_287_r86 : BitVec 32 := 0#32
  ![v457.toNat, 0]
@[reducible] def k0_t66_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off797 (k0_t66 : Fin k0_t66_loop.trips) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk689 (v464 : IVec S16 32) : Prop :=
  (∀ a x, ((![v464] : Fin 1 → IVec S16 32) a x).toNat < S100000.size a)
instance k0_chk689.dec : ∀ (v464 : IVec S16 32), Decidable (k0_chk689 v464) := fun v464 => decidable_of_iff' _ (Iff.of_eq (k0_chk689.eq_1 v464))
theorem k0_idx689_inb : ∀ (v464 : IVec S16 32) (k0_hw689 : k0_chk689 v464), ∀ a x, ((![v464] : Fin 1 → IVec S16 32) a x).toNat < S100000.size a := fun v464 k0_hw689 => k0_hw689
def k0_off798 (k0_t66 : Fin k0_t66_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v466 : BitVec 32 := Scalar.addi v461 c0_i32_288
  let v467 : Index := Scalar.indexCast v466
  ![v467.toNat]

def k0_chk690 (v471 : IVec S16 32) : Prop :=
  (∀ a x, ((![v471] : Fin 1 → IVec S16 32) a x).toNat < S100000.size a)
instance k0_chk690.dec : ∀ (v471 : IVec S16 32), Decidable (k0_chk690 v471) := fun v471 => decidable_of_iff' _ (Iff.of_eq (k0_chk690.eq_1 v471))
theorem k0_idx690_inb : ∀ (v471 : IVec S16 32) (k0_hw690 : k0_chk690 v471), ∀ a x, ((![v471] : Fin 1 → IVec S16 32) a x).toNat < S100000.size a := fun v471 k0_hw690 => k0_hw690
def k0_off799 (k0_t66 : Fin k0_t66_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v473 : BitVec 32 := Scalar.addi v461 c16_i32_289
  let v474 : Index := Scalar.indexCast v473
  ![v474.toNat]

def k0_chk691 (v478 : IVec S16 32) : Prop :=
  (∀ a x, ((![v478] : Fin 1 → IVec S16 32) a x).toNat < S100000.size a)
instance k0_chk691.dec : ∀ (v478 : IVec S16 32), Decidable (k0_chk691 v478) := fun v478 => decidable_of_iff' _ (Iff.of_eq (k0_chk691.eq_1 v478))
theorem k0_idx691_inb : ∀ (v478 : IVec S16 32) (k0_hw691 : k0_chk691 v478), ∀ a x, ((![v478] : Fin 1 → IVec S16 32) a x).toNat < S100000.size a := fun v478 k0_hw691 => k0_hw691
def k0_off800 (k0_t66 : Fin k0_t66_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v480 : BitVec 32 := Scalar.addi v461 c32_i32_291
  let v481 : Index := Scalar.indexCast v480
  ![v481.toNat]

def k0_chk692 (v485 : IVec S16 32) : Prop :=
  (∀ a x, ((![v485] : Fin 1 → IVec S16 32) a x).toNat < S100000.size a)
instance k0_chk692.dec : ∀ (v485 : IVec S16 32), Decidable (k0_chk692 v485) := fun v485 => decidable_of_iff' _ (Iff.of_eq (k0_chk692.eq_1 v485))
theorem k0_idx692_inb : ∀ (v485 : IVec S16 32) (k0_hw692 : k0_chk692 v485), ∀ a x, ((![v485] : Fin 1 → IVec S16 32) a x).toNat < S100000.size a := fun v485 k0_hw692 => k0_hw692
def k0_off801 (k0_t66 : Fin k0_t66_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v487 : BitVec 32 := Scalar.addi v461 c48_i32_292
  let v488 : Index := Scalar.indexCast v487
  ![v488.toNat]

def k0_chk693 (v492 : IVec S16 32) : Prop :=
  (∀ a x, ((![v492] : Fin 1 → IVec S16 32) a x).toNat < S100000.size a)
instance k0_chk693.dec : ∀ (v492 : IVec S16 32), Decidable (k0_chk693 v492) := fun v492 => decidable_of_iff' _ (Iff.of_eq (k0_chk693.eq_1 v492))
theorem k0_idx693_inb : ∀ (v492 : IVec S16 32) (k0_hw693 : k0_chk693 v492), ∀ a x, ((![v492] : Fin 1 → IVec S16 32) a x).toNat < S100000.size a := fun v492 k0_hw693 => k0_hw693
def k0_off802 (k0_t66 : Fin k0_t66_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v494 : BitVec 32 := Scalar.addi v461 c64_i32_293
  let v495 : Index := Scalar.indexCast v494
  ![v495.toNat]

def k0_chk694 (v499 : IVec S16 32) : Prop :=
  (∀ a x, ((![v499] : Fin 1 → IVec S16 32) a x).toNat < S100000.size a)
instance k0_chk694.dec : ∀ (v499 : IVec S16 32), Decidable (k0_chk694 v499) := fun v499 => decidable_of_iff' _ (Iff.of_eq (k0_chk694.eq_1 v499))
theorem k0_idx694_inb : ∀ (v499 : IVec S16 32) (k0_hw694 : k0_chk694 v499), ∀ a x, ((![v499] : Fin 1 → IVec S16 32) a x).toNat < S100000.size a := fun v499 k0_hw694 => k0_hw694
def k0_off803 (k0_t66 : Fin k0_t66_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v501 : BitVec 32 := Scalar.addi v461 c80_i32_294
  let v502 : Index := Scalar.indexCast v501
  ![v502.toNat]

def k0_chk695 (v506 : IVec S16 32) : Prop :=
  (∀ a x, ((![v506] : Fin 1 → IVec S16 32) a x).toNat < S100000.size a)
instance k0_chk695.dec : ∀ (v506 : IVec S16 32), Decidable (k0_chk695 v506) := fun v506 => decidable_of_iff' _ (Iff.of_eq (k0_chk695.eq_1 v506))
theorem k0_idx695_inb : ∀ (v506 : IVec S16 32) (k0_hw695 : k0_chk695 v506), ∀ a x, ((![v506] : Fin 1 → IVec S16 32) a x).toNat < S100000.size a := fun v506 k0_hw695 => k0_hw695
def k0_off804 (k0_t66 : Fin k0_t66_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v508 : BitVec 32 := Scalar.addi v461 c96_i32_295
  let v509 : Index := Scalar.indexCast v508
  ![v509.toNat]

def k0_chk696 (v513 : IVec S16 32) : Prop :=
  (∀ a x, ((![v513] : Fin 1 → IVec S16 32) a x).toNat < S100000.size a)
instance k0_chk696.dec : ∀ (v513 : IVec S16 32), Decidable (k0_chk696 v513) := fun v513 => decidable_of_iff' _ (Iff.of_eq (k0_chk696.eq_1 v513))
theorem k0_idx696_inb : ∀ (v513 : IVec S16 32) (k0_hw696 : k0_chk696 v513), ∀ a x, ((![v513] : Fin 1 → IVec S16 32) a x).toNat < S100000.size a := fun v513 k0_hw696 => k0_hw696
def k0_off805 (k0_t66 : Fin k0_t66_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v515 : BitVec 32 := Scalar.addi v461 c112_i32_296
  let v516 : Index := Scalar.indexCast v515
  ![v516.toNat]

def k0_chk697 (v520 : IVec S16 32) : Prop :=
  (∀ a x, ((![v520] : Fin 1 → IVec S16 32) a x).toNat < S100000.size a)
instance k0_chk697.dec : ∀ (v520 : IVec S16 32), Decidable (k0_chk697 v520) := fun v520 => decidable_of_iff' _ (Iff.of_eq (k0_chk697.eq_1 v520))
theorem k0_idx697_inb : ∀ (v520 : IVec S16 32) (k0_hw697 : k0_chk697 v520), ∀ a x, ((![v520] : Fin 1 → IVec S16 32) a x).toNat < S100000.size a := fun v520 k0_hw697 => k0_hw697
def k0_off806 (k0_t66 : Fin k0_t66_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v522 : BitVec 32 := Scalar.addi v461 c128_i32_297
  let v523 : Index := Scalar.indexCast v522
  ![v523.toNat]

def k0_chk698 (v527 : IVec S16 32) : Prop :=
  (∀ a x, ((![v527] : Fin 1 → IVec S16 32) a x).toNat < S100000.size a)
instance k0_chk698.dec : ∀ (v527 : IVec S16 32), Decidable (k0_chk698 v527) := fun v527 => decidable_of_iff' _ (Iff.of_eq (k0_chk698.eq_1 v527))
theorem k0_idx698_inb : ∀ (v527 : IVec S16 32) (k0_hw698 : k0_chk698 v527), ∀ a x, ((![v527] : Fin 1 → IVec S16 32) a x).toNat < S100000.size a := fun v527 k0_hw698 => k0_hw698
def k0_off807 (k0_t66 : Fin k0_t66_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v529 : BitVec 32 := Scalar.addi v461 c144_i32_299
  let v530 : Index := Scalar.indexCast v529
  ![v530.toNat]

def k0_chk699 (v534 : IVec S16 32) : Prop :=
  (∀ a x, ((![v534] : Fin 1 → IVec S16 32) a x).toNat < S100000.size a)
instance k0_chk699.dec : ∀ (v534 : IVec S16 32), Decidable (k0_chk699 v534) := fun v534 => decidable_of_iff' _ (Iff.of_eq (k0_chk699.eq_1 v534))
theorem k0_idx699_inb : ∀ (v534 : IVec S16 32) (k0_hw699 : k0_chk699 v534), ∀ a x, ((![v534] : Fin 1 → IVec S16 32) a x).toNat < S100000.size a := fun v534 k0_hw699 => k0_hw699
def k0_off808 (k0_t66 : Fin k0_t66_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v536 : BitVec 32 := Scalar.addi v461 c160_i32_300
  let v537 : Index := Scalar.indexCast v536
  ![v537.toNat]

def k0_chk700 (v541 : IVec S16 32) : Prop :=
  (∀ a x, ((![v541] : Fin 1 → IVec S16 32) a x).toNat < S100000.size a)
instance k0_chk700.dec : ∀ (v541 : IVec S16 32), Decidable (k0_chk700 v541) := fun v541 => decidable_of_iff' _ (Iff.of_eq (k0_chk700.eq_1 v541))
theorem k0_idx700_inb : ∀ (v541 : IVec S16 32) (k0_hw700 : k0_chk700 v541), ∀ a x, ((![v541] : Fin 1 → IVec S16 32) a x).toNat < S100000.size a := fun v541 k0_hw700 => k0_hw700
def k0_off809 (k0_t66 : Fin k0_t66_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v543 : BitVec 32 := Scalar.addi v461 c176_i32_301
  let v544 : Index := Scalar.indexCast v543
  ![v544.toNat]

def k0_chk701 (v548 : IVec S16 32) : Prop :=
  (∀ a x, ((![v548] : Fin 1 → IVec S16 32) a x).toNat < S100000.size a)
instance k0_chk701.dec : ∀ (v548 : IVec S16 32), Decidable (k0_chk701 v548) := fun v548 => decidable_of_iff' _ (Iff.of_eq (k0_chk701.eq_1 v548))
theorem k0_idx701_inb : ∀ (v548 : IVec S16 32) (k0_hw701 : k0_chk701 v548), ∀ a x, ((![v548] : Fin 1 → IVec S16 32) a x).toNat < S100000.size a := fun v548 k0_hw701 => k0_hw701
def k0_off810 (k0_t66 : Fin k0_t66_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v550 : BitVec 32 := Scalar.addi v461 c192_i32_302
  let v551 : Index := Scalar.indexCast v550
  ![v551.toNat]

def k0_chk702 (v555 : IVec S16 32) : Prop :=
  (∀ a x, ((![v555] : Fin 1 → IVec S16 32) a x).toNat < S100000.size a)
instance k0_chk702.dec : ∀ (v555 : IVec S16 32), Decidable (k0_chk702 v555) := fun v555 => decidable_of_iff' _ (Iff.of_eq (k0_chk702.eq_1 v555))
theorem k0_idx702_inb : ∀ (v555 : IVec S16 32) (k0_hw702 : k0_chk702 v555), ∀ a x, ((![v555] : Fin 1 → IVec S16 32) a x).toNat < S100000.size a := fun v555 k0_hw702 => k0_hw702
def k0_off811 (k0_t66 : Fin k0_t66_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v557 : BitVec 32 := Scalar.addi v461 c208_i32_303
  let v558 : Index := Scalar.indexCast v557
  ![v558.toNat]

def k0_chk703 (v562 : IVec S16 32) : Prop :=
  (∀ a x, ((![v562] : Fin 1 → IVec S16 32) a x).toNat < S100000.size a)
instance k0_chk703.dec : ∀ (v562 : IVec S16 32), Decidable (k0_chk703 v562) := fun v562 => decidable_of_iff' _ (Iff.of_eq (k0_chk703.eq_1 v562))
theorem k0_idx703_inb : ∀ (v562 : IVec S16 32) (k0_hw703 : k0_chk703 v562), ∀ a x, ((![v562] : Fin 1 → IVec S16 32) a x).toNat < S100000.size a := fun v562 k0_hw703 => k0_hw703
def k0_off812 (k0_t66 : Fin k0_t66_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let v564 : BitVec 32 := Scalar.addi v461 c224_i32_304
  let v565 : Index := Scalar.indexCast v564
  ![v565.toNat]

def k0_chk704 (v569 : IVec S16 32) : Prop :=
  (∀ a x, ((![v569] : Fin 1 → IVec S16 32) a x).toNat < S100000.size a)
instance k0_chk704.dec : ∀ (v569 : IVec S16 32), Decidable (k0_chk704 v569) := fun v569 => decidable_of_iff' _ (Iff.of_eq (k0_chk704.eq_1 v569))
theorem k0_idx704_inb : ∀ (v569 : IVec S16 32) (k0_hw704 : k0_chk704 v569), ∀ a x, ((![v569] : Fin 1 → IVec S16 32) a x).toNat < S100000.size a := fun v569 k0_hw704 => k0_hw704
def k0_off813 (k0_t66 : Fin k0_t66_loop.trips) : Fin 1 → Nat :=
  let c0_i32_281 : BitVec 32 := 0#32
  let c1_i32_283 : BitVec 32 := 1#32
  let arg36 : BitVec 32 := Scf.iv c0_i32_281 c1_i32_283 k0_t66
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off814 (i : grid0.Coords) (k0_t64 : Fin (k0_t64_loop i).trips) : Fin 2 → Nat :=
  let c360_i32_285 : BitVec 32 := 360#32
  let c36_i32_115 : BitVec 32 := 36#32
  let c0_i32_114 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c360_i32 : BitVec 32 := 360#32
  let v199 : BitVec 32 := Scalar.subi v19 c360_i32
  let v200 : BitVec 32 := Scalar.maxsi c0_i32_114 v199
  let v201 : BitVec 32 := Scalar.minsi c36_i32_115 v200
  let c36_i32_118 : BitVec 32 := 36#32
  let c0_i32_117 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c360_i32_116 : BitVec 32 := 360#32
  let v202 : BitVec 32 := Scalar.subi v38 c360_i32_116
  let v203 : BitVec 32 := Scalar.maxsi c0_i32_117 v202
  let v204 : BitVec 32 := Scalar.minsi c36_i32_118 v203
  let v208 : BitVec 32 := Scalar.subi v204 v201
  let c1_i32_121 : BitVec 32 := 1#32
  let v210 : BitVec 32 := Scalar.divsi v208 c1_i32_121
  let v211 : BitVec 32 := Scalar.muli v210 c1_i32_121
  let v212 : BitVec 32 := Scalar.addi v201 v211
  let c1_i32_123 : BitVec 32 := 1#32
  let arg34 : BitVec 32 := Scf.iv v212 c1_i32_123 k0_t64
  let v460 : BitVec 32 := Scalar.addi c360_i32_285 arg34
  let c8192_i32_r87 : BitVec 32 := 8192#32
  ![v460.toNat, 8192]
@[reducible] def k0_t67_loop (i : grid0.Coords) : Scf.Loop 32 :=
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c36_i32_128 : BitVec 32 := 36#32
  let c0_i32_127 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c396_i32_126 : BitVec 32 := 396#32
  let v218 : BitVec 32 := Scalar.subi v38 c396_i32_126
  let v219 : BitVec 32 := Scalar.maxsi c0_i32_127 v218
  let v220 : BitVec 32 := Scalar.minsi c36_i32_128 v219
  let v224 : BitVec 32 := Scalar.subi v220 v217
  let c1_i32_131 : BitVec 32 := 1#32
  let v226 : BitVec 32 := Scalar.divsi v224 c1_i32_131
  let v227 : BitVec 32 := Scalar.muli v226 c1_i32_131
  let v228 : BitVec 32 := Scalar.addi v217 v227
  let c1_i32_132 : BitVec 32 := 1#32
  ⟨v217, v228, c1_i32_132⟩
def k0_off815 (i : grid0.Coords) (k0_t67 : Fin (k0_t67_loop i).trips) : Fin 2 → Nat :=
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c1_i32_132 : BitVec 32 := 1#32
  let arg34 : BitVec 32 := Scf.iv v217 c1_i32_132 k0_t67
  let c0_i32_287_r90 : BitVec 32 := 0#32
  ![arg34.toNat, 0]
@[reducible] def k0_t68_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off816 (k0_t68 : Fin k0_t68_loop.trips) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk705 (v464 : IVec S16 32) : Prop :=
  (∀ a x, ((![v464] : Fin 1 → IVec S16 32) a x).toNat < S100000.size a)
instance k0_chk705.dec : ∀ (v464 : IVec S16 32), Decidable (k0_chk705 v464) := fun v464 => decidable_of_iff' _ (Iff.of_eq (k0_chk705.eq_1 v464))
theorem k0_idx705_inb : ∀ (v464 : IVec S16 32) (k0_hw705 : k0_chk705 v464), ∀ a x, ((![v464] : Fin 1 → IVec S16 32) a x).toNat < S100000.size a := fun v464 k0_hw705 => k0_hw705
def k0_off817 (k0_t68 : Fin k0_t68_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v466 : BitVec 32 := Scalar.addi v461 c0_i32_288
  let v467 : Index := Scalar.indexCast v466
  ![v467.toNat]

def k0_chk706 (v471 : IVec S16 32) : Prop :=
  (∀ a x, ((![v471] : Fin 1 → IVec S16 32) a x).toNat < S100000.size a)
instance k0_chk706.dec : ∀ (v471 : IVec S16 32), Decidable (k0_chk706 v471) := fun v471 => decidable_of_iff' _ (Iff.of_eq (k0_chk706.eq_1 v471))
theorem k0_idx706_inb : ∀ (v471 : IVec S16 32) (k0_hw706 : k0_chk706 v471), ∀ a x, ((![v471] : Fin 1 → IVec S16 32) a x).toNat < S100000.size a := fun v471 k0_hw706 => k0_hw706
def k0_off818 (k0_t68 : Fin k0_t68_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v473 : BitVec 32 := Scalar.addi v461 c16_i32_289
  let v474 : Index := Scalar.indexCast v473
  ![v474.toNat]

def k0_chk707 (v478 : IVec S16 32) : Prop :=
  (∀ a x, ((![v478] : Fin 1 → IVec S16 32) a x).toNat < S100000.size a)
instance k0_chk707.dec : ∀ (v478 : IVec S16 32), Decidable (k0_chk707 v478) := fun v478 => decidable_of_iff' _ (Iff.of_eq (k0_chk707.eq_1 v478))
theorem k0_idx707_inb : ∀ (v478 : IVec S16 32) (k0_hw707 : k0_chk707 v478), ∀ a x, ((![v478] : Fin 1 → IVec S16 32) a x).toNat < S100000.size a := fun v478 k0_hw707 => k0_hw707
def k0_off819 (k0_t68 : Fin k0_t68_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v480 : BitVec 32 := Scalar.addi v461 c32_i32_291
  let v481 : Index := Scalar.indexCast v480
  ![v481.toNat]

def k0_chk708 (v485 : IVec S16 32) : Prop :=
  (∀ a x, ((![v485] : Fin 1 → IVec S16 32) a x).toNat < S100000.size a)
instance k0_chk708.dec : ∀ (v485 : IVec S16 32), Decidable (k0_chk708 v485) := fun v485 => decidable_of_iff' _ (Iff.of_eq (k0_chk708.eq_1 v485))
theorem k0_idx708_inb : ∀ (v485 : IVec S16 32) (k0_hw708 : k0_chk708 v485), ∀ a x, ((![v485] : Fin 1 → IVec S16 32) a x).toNat < S100000.size a := fun v485 k0_hw708 => k0_hw708
def k0_off820 (k0_t68 : Fin k0_t68_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v487 : BitVec 32 := Scalar.addi v461 c48_i32_292
  let v488 : Index := Scalar.indexCast v487
  ![v488.toNat]

def k0_chk709 (v492 : IVec S16 32) : Prop :=
  (∀ a x, ((![v492] : Fin 1 → IVec S16 32) a x).toNat < S100000.size a)
instance k0_chk709.dec : ∀ (v492 : IVec S16 32), Decidable (k0_chk709 v492) := fun v492 => decidable_of_iff' _ (Iff.of_eq (k0_chk709.eq_1 v492))
theorem k0_idx709_inb : ∀ (v492 : IVec S16 32) (k0_hw709 : k0_chk709 v492), ∀ a x, ((![v492] : Fin 1 → IVec S16 32) a x).toNat < S100000.size a := fun v492 k0_hw709 => k0_hw709
def k0_off821 (k0_t68 : Fin k0_t68_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v494 : BitVec 32 := Scalar.addi v461 c64_i32_293
  let v495 : Index := Scalar.indexCast v494
  ![v495.toNat]

def k0_chk710 (v499 : IVec S16 32) : Prop :=
  (∀ a x, ((![v499] : Fin 1 → IVec S16 32) a x).toNat < S100000.size a)
instance k0_chk710.dec : ∀ (v499 : IVec S16 32), Decidable (k0_chk710 v499) := fun v499 => decidable_of_iff' _ (Iff.of_eq (k0_chk710.eq_1 v499))
theorem k0_idx710_inb : ∀ (v499 : IVec S16 32) (k0_hw710 : k0_chk710 v499), ∀ a x, ((![v499] : Fin 1 → IVec S16 32) a x).toNat < S100000.size a := fun v499 k0_hw710 => k0_hw710
def k0_off822 (k0_t68 : Fin k0_t68_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v501 : BitVec 32 := Scalar.addi v461 c80_i32_294
  let v502 : Index := Scalar.indexCast v501
  ![v502.toNat]

def k0_chk711 (v506 : IVec S16 32) : Prop :=
  (∀ a x, ((![v506] : Fin 1 → IVec S16 32) a x).toNat < S100000.size a)
instance k0_chk711.dec : ∀ (v506 : IVec S16 32), Decidable (k0_chk711 v506) := fun v506 => decidable_of_iff' _ (Iff.of_eq (k0_chk711.eq_1 v506))
theorem k0_idx711_inb : ∀ (v506 : IVec S16 32) (k0_hw711 : k0_chk711 v506), ∀ a x, ((![v506] : Fin 1 → IVec S16 32) a x).toNat < S100000.size a := fun v506 k0_hw711 => k0_hw711
def k0_off823 (k0_t68 : Fin k0_t68_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v508 : BitVec 32 := Scalar.addi v461 c96_i32_295
  let v509 : Index := Scalar.indexCast v508
  ![v509.toNat]

def k0_chk712 (v513 : IVec S16 32) : Prop :=
  (∀ a x, ((![v513] : Fin 1 → IVec S16 32) a x).toNat < S100000.size a)
instance k0_chk712.dec : ∀ (v513 : IVec S16 32), Decidable (k0_chk712 v513) := fun v513 => decidable_of_iff' _ (Iff.of_eq (k0_chk712.eq_1 v513))
theorem k0_idx712_inb : ∀ (v513 : IVec S16 32) (k0_hw712 : k0_chk712 v513), ∀ a x, ((![v513] : Fin 1 → IVec S16 32) a x).toNat < S100000.size a := fun v513 k0_hw712 => k0_hw712
def k0_off824 (k0_t68 : Fin k0_t68_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v515 : BitVec 32 := Scalar.addi v461 c112_i32_296
  let v516 : Index := Scalar.indexCast v515
  ![v516.toNat]

def k0_chk713 (v520 : IVec S16 32) : Prop :=
  (∀ a x, ((![v520] : Fin 1 → IVec S16 32) a x).toNat < S100000.size a)
instance k0_chk713.dec : ∀ (v520 : IVec S16 32), Decidable (k0_chk713 v520) := fun v520 => decidable_of_iff' _ (Iff.of_eq (k0_chk713.eq_1 v520))
theorem k0_idx713_inb : ∀ (v520 : IVec S16 32) (k0_hw713 : k0_chk713 v520), ∀ a x, ((![v520] : Fin 1 → IVec S16 32) a x).toNat < S100000.size a := fun v520 k0_hw713 => k0_hw713
def k0_off825 (k0_t68 : Fin k0_t68_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v522 : BitVec 32 := Scalar.addi v461 c128_i32_297
  let v523 : Index := Scalar.indexCast v522
  ![v523.toNat]

def k0_chk714 (v527 : IVec S16 32) : Prop :=
  (∀ a x, ((![v527] : Fin 1 → IVec S16 32) a x).toNat < S100000.size a)
instance k0_chk714.dec : ∀ (v527 : IVec S16 32), Decidable (k0_chk714 v527) := fun v527 => decidable_of_iff' _ (Iff.of_eq (k0_chk714.eq_1 v527))
theorem k0_idx714_inb : ∀ (v527 : IVec S16 32) (k0_hw714 : k0_chk714 v527), ∀ a x, ((![v527] : Fin 1 → IVec S16 32) a x).toNat < S100000.size a := fun v527 k0_hw714 => k0_hw714
def k0_off826 (k0_t68 : Fin k0_t68_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v529 : BitVec 32 := Scalar.addi v461 c144_i32_299
  let v530 : Index := Scalar.indexCast v529
  ![v530.toNat]

def k0_chk715 (v534 : IVec S16 32) : Prop :=
  (∀ a x, ((![v534] : Fin 1 → IVec S16 32) a x).toNat < S100000.size a)
instance k0_chk715.dec : ∀ (v534 : IVec S16 32), Decidable (k0_chk715 v534) := fun v534 => decidable_of_iff' _ (Iff.of_eq (k0_chk715.eq_1 v534))
theorem k0_idx715_inb : ∀ (v534 : IVec S16 32) (k0_hw715 : k0_chk715 v534), ∀ a x, ((![v534] : Fin 1 → IVec S16 32) a x).toNat < S100000.size a := fun v534 k0_hw715 => k0_hw715
def k0_off827 (k0_t68 : Fin k0_t68_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v536 : BitVec 32 := Scalar.addi v461 c160_i32_300
  let v537 : Index := Scalar.indexCast v536
  ![v537.toNat]

def k0_chk716 (v541 : IVec S16 32) : Prop :=
  (∀ a x, ((![v541] : Fin 1 → IVec S16 32) a x).toNat < S100000.size a)
instance k0_chk716.dec : ∀ (v541 : IVec S16 32), Decidable (k0_chk716 v541) := fun v541 => decidable_of_iff' _ (Iff.of_eq (k0_chk716.eq_1 v541))
theorem k0_idx716_inb : ∀ (v541 : IVec S16 32) (k0_hw716 : k0_chk716 v541), ∀ a x, ((![v541] : Fin 1 → IVec S16 32) a x).toNat < S100000.size a := fun v541 k0_hw716 => k0_hw716
def k0_off828 (k0_t68 : Fin k0_t68_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v543 : BitVec 32 := Scalar.addi v461 c176_i32_301
  let v544 : Index := Scalar.indexCast v543
  ![v544.toNat]

def k0_chk717 (v548 : IVec S16 32) : Prop :=
  (∀ a x, ((![v548] : Fin 1 → IVec S16 32) a x).toNat < S100000.size a)
instance k0_chk717.dec : ∀ (v548 : IVec S16 32), Decidable (k0_chk717 v548) := fun v548 => decidable_of_iff' _ (Iff.of_eq (k0_chk717.eq_1 v548))
theorem k0_idx717_inb : ∀ (v548 : IVec S16 32) (k0_hw717 : k0_chk717 v548), ∀ a x, ((![v548] : Fin 1 → IVec S16 32) a x).toNat < S100000.size a := fun v548 k0_hw717 => k0_hw717
def k0_off829 (k0_t68 : Fin k0_t68_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v550 : BitVec 32 := Scalar.addi v461 c192_i32_302
  let v551 : Index := Scalar.indexCast v550
  ![v551.toNat]

def k0_chk718 (v555 : IVec S16 32) : Prop :=
  (∀ a x, ((![v555] : Fin 1 → IVec S16 32) a x).toNat < S100000.size a)
instance k0_chk718.dec : ∀ (v555 : IVec S16 32), Decidable (k0_chk718 v555) := fun v555 => decidable_of_iff' _ (Iff.of_eq (k0_chk718.eq_1 v555))
theorem k0_idx718_inb : ∀ (v555 : IVec S16 32) (k0_hw718 : k0_chk718 v555), ∀ a x, ((![v555] : Fin 1 → IVec S16 32) a x).toNat < S100000.size a := fun v555 k0_hw718 => k0_hw718
def k0_off830 (k0_t68 : Fin k0_t68_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v557 : BitVec 32 := Scalar.addi v461 c208_i32_303
  let v558 : Index := Scalar.indexCast v557
  ![v558.toNat]

def k0_chk719 (v562 : IVec S16 32) : Prop :=
  (∀ a x, ((![v562] : Fin 1 → IVec S16 32) a x).toNat < S100000.size a)
instance k0_chk719.dec : ∀ (v562 : IVec S16 32), Decidable (k0_chk719 v562) := fun v562 => decidable_of_iff' _ (Iff.of_eq (k0_chk719.eq_1 v562))
theorem k0_idx719_inb : ∀ (v562 : IVec S16 32) (k0_hw719 : k0_chk719 v562), ∀ a x, ((![v562] : Fin 1 → IVec S16 32) a x).toNat < S100000.size a := fun v562 k0_hw719 => k0_hw719
def k0_off831 (k0_t68 : Fin k0_t68_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let v564 : BitVec 32 := Scalar.addi v461 c224_i32_304
  let v565 : Index := Scalar.indexCast v564
  ![v565.toNat]

def k0_chk720 (v569 : IVec S16 32) : Prop :=
  (∀ a x, ((![v569] : Fin 1 → IVec S16 32) a x).toNat < S100000.size a)
instance k0_chk720.dec : ∀ (v569 : IVec S16 32), Decidable (k0_chk720 v569) := fun v569 => decidable_of_iff' _ (Iff.of_eq (k0_chk720.eq_1 v569))
theorem k0_idx720_inb : ∀ (v569 : IVec S16 32) (k0_hw720 : k0_chk720 v569), ∀ a x, ((![v569] : Fin 1 → IVec S16 32) a x).toNat < S100000.size a := fun v569 k0_hw720 => k0_hw720
def k0_off832 (k0_t68 : Fin k0_t68_loop.trips) : Fin 1 → Nat :=
  let c0_i32_275 : BitVec 32 := 0#32
  let c1_i32_277 : BitVec 32 := 1#32
  let arg36 : BitVec 32 := Scf.iv c0_i32_275 c1_i32_277 k0_t68
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off833 (i : grid0.Coords) (k0_t67 : Fin (k0_t67_loop i).trips) : Fin 2 → Nat :=
  let c396_i32_279 : BitVec 32 := 396#32
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c1_i32_132 : BitVec 32 := 1#32
  let arg34 : BitVec 32 := Scf.iv v217 c1_i32_132 k0_t67
  let v457 : BitVec 32 := Scalar.addi c396_i32_279 arg34
  let c0_i32_287_r91 : BitVec 32 := 0#32
  ![v457.toNat, 0]
@[reducible] def k0_t69_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off834 (k0_t69 : Fin k0_t69_loop.trips) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk721 (v464 : IVec S16 32) : Prop :=
  (∀ a x, ((![v464] : Fin 1 → IVec S16 32) a x).toNat < S100000.size a)
instance k0_chk721.dec : ∀ (v464 : IVec S16 32), Decidable (k0_chk721 v464) := fun v464 => decidable_of_iff' _ (Iff.of_eq (k0_chk721.eq_1 v464))
theorem k0_idx721_inb : ∀ (v464 : IVec S16 32) (k0_hw721 : k0_chk721 v464), ∀ a x, ((![v464] : Fin 1 → IVec S16 32) a x).toNat < S100000.size a := fun v464 k0_hw721 => k0_hw721
def k0_off835 (k0_t69 : Fin k0_t69_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v466 : BitVec 32 := Scalar.addi v461 c0_i32_288
  let v467 : Index := Scalar.indexCast v466
  ![v467.toNat]

def k0_chk722 (v471 : IVec S16 32) : Prop :=
  (∀ a x, ((![v471] : Fin 1 → IVec S16 32) a x).toNat < S100000.size a)
instance k0_chk722.dec : ∀ (v471 : IVec S16 32), Decidable (k0_chk722 v471) := fun v471 => decidable_of_iff' _ (Iff.of_eq (k0_chk722.eq_1 v471))
theorem k0_idx722_inb : ∀ (v471 : IVec S16 32) (k0_hw722 : k0_chk722 v471), ∀ a x, ((![v471] : Fin 1 → IVec S16 32) a x).toNat < S100000.size a := fun v471 k0_hw722 => k0_hw722
def k0_off836 (k0_t69 : Fin k0_t69_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v473 : BitVec 32 := Scalar.addi v461 c16_i32_289
  let v474 : Index := Scalar.indexCast v473
  ![v474.toNat]

def k0_chk723 (v478 : IVec S16 32) : Prop :=
  (∀ a x, ((![v478] : Fin 1 → IVec S16 32) a x).toNat < S100000.size a)
instance k0_chk723.dec : ∀ (v478 : IVec S16 32), Decidable (k0_chk723 v478) := fun v478 => decidable_of_iff' _ (Iff.of_eq (k0_chk723.eq_1 v478))
theorem k0_idx723_inb : ∀ (v478 : IVec S16 32) (k0_hw723 : k0_chk723 v478), ∀ a x, ((![v478] : Fin 1 → IVec S16 32) a x).toNat < S100000.size a := fun v478 k0_hw723 => k0_hw723
def k0_off837 (k0_t69 : Fin k0_t69_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v480 : BitVec 32 := Scalar.addi v461 c32_i32_291
  let v481 : Index := Scalar.indexCast v480
  ![v481.toNat]

def k0_chk724 (v485 : IVec S16 32) : Prop :=
  (∀ a x, ((![v485] : Fin 1 → IVec S16 32) a x).toNat < S100000.size a)
instance k0_chk724.dec : ∀ (v485 : IVec S16 32), Decidable (k0_chk724 v485) := fun v485 => decidable_of_iff' _ (Iff.of_eq (k0_chk724.eq_1 v485))
theorem k0_idx724_inb : ∀ (v485 : IVec S16 32) (k0_hw724 : k0_chk724 v485), ∀ a x, ((![v485] : Fin 1 → IVec S16 32) a x).toNat < S100000.size a := fun v485 k0_hw724 => k0_hw724
def k0_off838 (k0_t69 : Fin k0_t69_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v487 : BitVec 32 := Scalar.addi v461 c48_i32_292
  let v488 : Index := Scalar.indexCast v487
  ![v488.toNat]

def k0_chk725 (v492 : IVec S16 32) : Prop :=
  (∀ a x, ((![v492] : Fin 1 → IVec S16 32) a x).toNat < S100000.size a)
instance k0_chk725.dec : ∀ (v492 : IVec S16 32), Decidable (k0_chk725 v492) := fun v492 => decidable_of_iff' _ (Iff.of_eq (k0_chk725.eq_1 v492))
theorem k0_idx725_inb : ∀ (v492 : IVec S16 32) (k0_hw725 : k0_chk725 v492), ∀ a x, ((![v492] : Fin 1 → IVec S16 32) a x).toNat < S100000.size a := fun v492 k0_hw725 => k0_hw725
def k0_off839 (k0_t69 : Fin k0_t69_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v494 : BitVec 32 := Scalar.addi v461 c64_i32_293
  let v495 : Index := Scalar.indexCast v494
  ![v495.toNat]

def k0_chk726 (v499 : IVec S16 32) : Prop :=
  (∀ a x, ((![v499] : Fin 1 → IVec S16 32) a x).toNat < S100000.size a)
instance k0_chk726.dec : ∀ (v499 : IVec S16 32), Decidable (k0_chk726 v499) := fun v499 => decidable_of_iff' _ (Iff.of_eq (k0_chk726.eq_1 v499))
theorem k0_idx726_inb : ∀ (v499 : IVec S16 32) (k0_hw726 : k0_chk726 v499), ∀ a x, ((![v499] : Fin 1 → IVec S16 32) a x).toNat < S100000.size a := fun v499 k0_hw726 => k0_hw726
def k0_off840 (k0_t69 : Fin k0_t69_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v501 : BitVec 32 := Scalar.addi v461 c80_i32_294
  let v502 : Index := Scalar.indexCast v501
  ![v502.toNat]

def k0_chk727 (v506 : IVec S16 32) : Prop :=
  (∀ a x, ((![v506] : Fin 1 → IVec S16 32) a x).toNat < S100000.size a)
instance k0_chk727.dec : ∀ (v506 : IVec S16 32), Decidable (k0_chk727 v506) := fun v506 => decidable_of_iff' _ (Iff.of_eq (k0_chk727.eq_1 v506))
theorem k0_idx727_inb : ∀ (v506 : IVec S16 32) (k0_hw727 : k0_chk727 v506), ∀ a x, ((![v506] : Fin 1 → IVec S16 32) a x).toNat < S100000.size a := fun v506 k0_hw727 => k0_hw727
def k0_off841 (k0_t69 : Fin k0_t69_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v508 : BitVec 32 := Scalar.addi v461 c96_i32_295
  let v509 : Index := Scalar.indexCast v508
  ![v509.toNat]

def k0_chk728 (v513 : IVec S16 32) : Prop :=
  (∀ a x, ((![v513] : Fin 1 → IVec S16 32) a x).toNat < S100000.size a)
instance k0_chk728.dec : ∀ (v513 : IVec S16 32), Decidable (k0_chk728 v513) := fun v513 => decidable_of_iff' _ (Iff.of_eq (k0_chk728.eq_1 v513))
theorem k0_idx728_inb : ∀ (v513 : IVec S16 32) (k0_hw728 : k0_chk728 v513), ∀ a x, ((![v513] : Fin 1 → IVec S16 32) a x).toNat < S100000.size a := fun v513 k0_hw728 => k0_hw728
def k0_off842 (k0_t69 : Fin k0_t69_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v515 : BitVec 32 := Scalar.addi v461 c112_i32_296
  let v516 : Index := Scalar.indexCast v515
  ![v516.toNat]

def k0_chk729 (v520 : IVec S16 32) : Prop :=
  (∀ a x, ((![v520] : Fin 1 → IVec S16 32) a x).toNat < S100000.size a)
instance k0_chk729.dec : ∀ (v520 : IVec S16 32), Decidable (k0_chk729 v520) := fun v520 => decidable_of_iff' _ (Iff.of_eq (k0_chk729.eq_1 v520))
theorem k0_idx729_inb : ∀ (v520 : IVec S16 32) (k0_hw729 : k0_chk729 v520), ∀ a x, ((![v520] : Fin 1 → IVec S16 32) a x).toNat < S100000.size a := fun v520 k0_hw729 => k0_hw729
def k0_off843 (k0_t69 : Fin k0_t69_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v522 : BitVec 32 := Scalar.addi v461 c128_i32_297
  let v523 : Index := Scalar.indexCast v522
  ![v523.toNat]

def k0_chk730 (v527 : IVec S16 32) : Prop :=
  (∀ a x, ((![v527] : Fin 1 → IVec S16 32) a x).toNat < S100000.size a)
instance k0_chk730.dec : ∀ (v527 : IVec S16 32), Decidable (k0_chk730 v527) := fun v527 => decidable_of_iff' _ (Iff.of_eq (k0_chk730.eq_1 v527))
theorem k0_idx730_inb : ∀ (v527 : IVec S16 32) (k0_hw730 : k0_chk730 v527), ∀ a x, ((![v527] : Fin 1 → IVec S16 32) a x).toNat < S100000.size a := fun v527 k0_hw730 => k0_hw730
def k0_off844 (k0_t69 : Fin k0_t69_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v529 : BitVec 32 := Scalar.addi v461 c144_i32_299
  let v530 : Index := Scalar.indexCast v529
  ![v530.toNat]

def k0_chk731 (v534 : IVec S16 32) : Prop :=
  (∀ a x, ((![v534] : Fin 1 → IVec S16 32) a x).toNat < S100000.size a)
instance k0_chk731.dec : ∀ (v534 : IVec S16 32), Decidable (k0_chk731 v534) := fun v534 => decidable_of_iff' _ (Iff.of_eq (k0_chk731.eq_1 v534))
theorem k0_idx731_inb : ∀ (v534 : IVec S16 32) (k0_hw731 : k0_chk731 v534), ∀ a x, ((![v534] : Fin 1 → IVec S16 32) a x).toNat < S100000.size a := fun v534 k0_hw731 => k0_hw731
def k0_off845 (k0_t69 : Fin k0_t69_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v536 : BitVec 32 := Scalar.addi v461 c160_i32_300
  let v537 : Index := Scalar.indexCast v536
  ![v537.toNat]

def k0_chk732 (v541 : IVec S16 32) : Prop :=
  (∀ a x, ((![v541] : Fin 1 → IVec S16 32) a x).toNat < S100000.size a)
instance k0_chk732.dec : ∀ (v541 : IVec S16 32), Decidable (k0_chk732 v541) := fun v541 => decidable_of_iff' _ (Iff.of_eq (k0_chk732.eq_1 v541))
theorem k0_idx732_inb : ∀ (v541 : IVec S16 32) (k0_hw732 : k0_chk732 v541), ∀ a x, ((![v541] : Fin 1 → IVec S16 32) a x).toNat < S100000.size a := fun v541 k0_hw732 => k0_hw732
def k0_off846 (k0_t69 : Fin k0_t69_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v543 : BitVec 32 := Scalar.addi v461 c176_i32_301
  let v544 : Index := Scalar.indexCast v543
  ![v544.toNat]

def k0_chk733 (v548 : IVec S16 32) : Prop :=
  (∀ a x, ((![v548] : Fin 1 → IVec S16 32) a x).toNat < S100000.size a)
instance k0_chk733.dec : ∀ (v548 : IVec S16 32), Decidable (k0_chk733 v548) := fun v548 => decidable_of_iff' _ (Iff.of_eq (k0_chk733.eq_1 v548))
theorem k0_idx733_inb : ∀ (v548 : IVec S16 32) (k0_hw733 : k0_chk733 v548), ∀ a x, ((![v548] : Fin 1 → IVec S16 32) a x).toNat < S100000.size a := fun v548 k0_hw733 => k0_hw733
def k0_off847 (k0_t69 : Fin k0_t69_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v550 : BitVec 32 := Scalar.addi v461 c192_i32_302
  let v551 : Index := Scalar.indexCast v550
  ![v551.toNat]

def k0_chk734 (v555 : IVec S16 32) : Prop :=
  (∀ a x, ((![v555] : Fin 1 → IVec S16 32) a x).toNat < S100000.size a)
instance k0_chk734.dec : ∀ (v555 : IVec S16 32), Decidable (k0_chk734 v555) := fun v555 => decidable_of_iff' _ (Iff.of_eq (k0_chk734.eq_1 v555))
theorem k0_idx734_inb : ∀ (v555 : IVec S16 32) (k0_hw734 : k0_chk734 v555), ∀ a x, ((![v555] : Fin 1 → IVec S16 32) a x).toNat < S100000.size a := fun v555 k0_hw734 => k0_hw734
def k0_off848 (k0_t69 : Fin k0_t69_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v557 : BitVec 32 := Scalar.addi v461 c208_i32_303
  let v558 : Index := Scalar.indexCast v557
  ![v558.toNat]

def k0_chk735 (v562 : IVec S16 32) : Prop :=
  (∀ a x, ((![v562] : Fin 1 → IVec S16 32) a x).toNat < S100000.size a)
instance k0_chk735.dec : ∀ (v562 : IVec S16 32), Decidable (k0_chk735 v562) := fun v562 => decidable_of_iff' _ (Iff.of_eq (k0_chk735.eq_1 v562))
theorem k0_idx735_inb : ∀ (v562 : IVec S16 32) (k0_hw735 : k0_chk735 v562), ∀ a x, ((![v562] : Fin 1 → IVec S16 32) a x).toNat < S100000.size a := fun v562 k0_hw735 => k0_hw735
def k0_off849 (k0_t69 : Fin k0_t69_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let v564 : BitVec 32 := Scalar.addi v461 c224_i32_304
  let v565 : Index := Scalar.indexCast v564
  ![v565.toNat]

def k0_chk736 (v569 : IVec S16 32) : Prop :=
  (∀ a x, ((![v569] : Fin 1 → IVec S16 32) a x).toNat < S100000.size a)
instance k0_chk736.dec : ∀ (v569 : IVec S16 32), Decidable (k0_chk736 v569) := fun v569 => decidable_of_iff' _ (Iff.of_eq (k0_chk736.eq_1 v569))
theorem k0_idx736_inb : ∀ (v569 : IVec S16 32) (k0_hw736 : k0_chk736 v569), ∀ a x, ((![v569] : Fin 1 → IVec S16 32) a x).toNat < S100000.size a := fun v569 k0_hw736 => k0_hw736
def k0_off850 (k0_t69 : Fin k0_t69_loop.trips) : Fin 1 → Nat :=
  let c0_i32_281 : BitVec 32 := 0#32
  let c1_i32_283 : BitVec 32 := 1#32
  let arg36 : BitVec 32 := Scf.iv c0_i32_281 c1_i32_283 k0_t69
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off851 (i : grid0.Coords) (k0_t67 : Fin (k0_t67_loop i).trips) : Fin 2 → Nat :=
  let c396_i32_285 : BitVec 32 := 396#32
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c1_i32_132 : BitVec 32 := 1#32
  let arg34 : BitVec 32 := Scf.iv v217 c1_i32_132 k0_t67
  let v460 : BitVec 32 := Scalar.addi c396_i32_285 arg34
  let c8192_i32_r92 : BitVec 32 := 8192#32
  ![v460.toNat, 8192]
@[reducible] def k0_t70_loop (i : grid0.Coords) : Scf.Loop 32 :=
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c36_i32_128 : BitVec 32 := 36#32
  let c0_i32_127 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c396_i32_126 : BitVec 32 := 396#32
  let v218 : BitVec 32 := Scalar.subi v38 c396_i32_126
  let v219 : BitVec 32 := Scalar.maxsi c0_i32_127 v218
  let v220 : BitVec 32 := Scalar.minsi c36_i32_128 v219
  let v224 : BitVec 32 := Scalar.subi v220 v217
  let c1_i32_131 : BitVec 32 := 1#32
  let v226 : BitVec 32 := Scalar.divsi v224 c1_i32_131
  let v227 : BitVec 32 := Scalar.muli v226 c1_i32_131
  let v228 : BitVec 32 := Scalar.addi v217 v227
  let v225 : BitVec 32 := Scalar.addi v217 v224
  let c1_i32_133 : BitVec 32 := 1#32
  ⟨v228, v225, c1_i32_133⟩
def k0_off852 (i : grid0.Coords) (k0_t70 : Fin (k0_t70_loop i).trips) : Fin 2 → Nat :=
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c36_i32_128 : BitVec 32 := 36#32
  let c0_i32_127 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c396_i32_126 : BitVec 32 := 396#32
  let v218 : BitVec 32 := Scalar.subi v38 c396_i32_126
  let v219 : BitVec 32 := Scalar.maxsi c0_i32_127 v218
  let v220 : BitVec 32 := Scalar.minsi c36_i32_128 v219
  let v224 : BitVec 32 := Scalar.subi v220 v217
  let c1_i32_131 : BitVec 32 := 1#32
  let v226 : BitVec 32 := Scalar.divsi v224 c1_i32_131
  let v227 : BitVec 32 := Scalar.muli v226 c1_i32_131
  let v228 : BitVec 32 := Scalar.addi v217 v227
  let c1_i32_133 : BitVec 32 := 1#32
  let arg34 : BitVec 32 := Scf.iv v228 c1_i32_133 k0_t70
  let c0_i32_287_r93 : BitVec 32 := 0#32
  ![arg34.toNat, 0]
@[reducible] def k0_t71_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off853 (k0_t71 : Fin k0_t71_loop.trips) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk737 (v464 : IVec S16 32) : Prop :=
  (∀ a x, ((![v464] : Fin 1 → IVec S16 32) a x).toNat < S100000.size a)
instance k0_chk737.dec : ∀ (v464 : IVec S16 32), Decidable (k0_chk737 v464) := fun v464 => decidable_of_iff' _ (Iff.of_eq (k0_chk737.eq_1 v464))
theorem k0_idx737_inb : ∀ (v464 : IVec S16 32) (k0_hw737 : k0_chk737 v464), ∀ a x, ((![v464] : Fin 1 → IVec S16 32) a x).toNat < S100000.size a := fun v464 k0_hw737 => k0_hw737
def k0_off854 (k0_t71 : Fin k0_t71_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v466 : BitVec 32 := Scalar.addi v461 c0_i32_288
  let v467 : Index := Scalar.indexCast v466
  ![v467.toNat]

def k0_chk738 (v471 : IVec S16 32) : Prop :=
  (∀ a x, ((![v471] : Fin 1 → IVec S16 32) a x).toNat < S100000.size a)
instance k0_chk738.dec : ∀ (v471 : IVec S16 32), Decidable (k0_chk738 v471) := fun v471 => decidable_of_iff' _ (Iff.of_eq (k0_chk738.eq_1 v471))
theorem k0_idx738_inb : ∀ (v471 : IVec S16 32) (k0_hw738 : k0_chk738 v471), ∀ a x, ((![v471] : Fin 1 → IVec S16 32) a x).toNat < S100000.size a := fun v471 k0_hw738 => k0_hw738
def k0_off855 (k0_t71 : Fin k0_t71_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v473 : BitVec 32 := Scalar.addi v461 c16_i32_289
  let v474 : Index := Scalar.indexCast v473
  ![v474.toNat]

def k0_chk739 (v478 : IVec S16 32) : Prop :=
  (∀ a x, ((![v478] : Fin 1 → IVec S16 32) a x).toNat < S100000.size a)
instance k0_chk739.dec : ∀ (v478 : IVec S16 32), Decidable (k0_chk739 v478) := fun v478 => decidable_of_iff' _ (Iff.of_eq (k0_chk739.eq_1 v478))
theorem k0_idx739_inb : ∀ (v478 : IVec S16 32) (k0_hw739 : k0_chk739 v478), ∀ a x, ((![v478] : Fin 1 → IVec S16 32) a x).toNat < S100000.size a := fun v478 k0_hw739 => k0_hw739
def k0_off856 (k0_t71 : Fin k0_t71_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v480 : BitVec 32 := Scalar.addi v461 c32_i32_291
  let v481 : Index := Scalar.indexCast v480
  ![v481.toNat]

def k0_chk740 (v485 : IVec S16 32) : Prop :=
  (∀ a x, ((![v485] : Fin 1 → IVec S16 32) a x).toNat < S100000.size a)
instance k0_chk740.dec : ∀ (v485 : IVec S16 32), Decidable (k0_chk740 v485) := fun v485 => decidable_of_iff' _ (Iff.of_eq (k0_chk740.eq_1 v485))
theorem k0_idx740_inb : ∀ (v485 : IVec S16 32) (k0_hw740 : k0_chk740 v485), ∀ a x, ((![v485] : Fin 1 → IVec S16 32) a x).toNat < S100000.size a := fun v485 k0_hw740 => k0_hw740
def k0_off857 (k0_t71 : Fin k0_t71_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v487 : BitVec 32 := Scalar.addi v461 c48_i32_292
  let v488 : Index := Scalar.indexCast v487
  ![v488.toNat]

def k0_chk741 (v492 : IVec S16 32) : Prop :=
  (∀ a x, ((![v492] : Fin 1 → IVec S16 32) a x).toNat < S100000.size a)
instance k0_chk741.dec : ∀ (v492 : IVec S16 32), Decidable (k0_chk741 v492) := fun v492 => decidable_of_iff' _ (Iff.of_eq (k0_chk741.eq_1 v492))
theorem k0_idx741_inb : ∀ (v492 : IVec S16 32) (k0_hw741 : k0_chk741 v492), ∀ a x, ((![v492] : Fin 1 → IVec S16 32) a x).toNat < S100000.size a := fun v492 k0_hw741 => k0_hw741
def k0_off858 (k0_t71 : Fin k0_t71_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v494 : BitVec 32 := Scalar.addi v461 c64_i32_293
  let v495 : Index := Scalar.indexCast v494
  ![v495.toNat]

def k0_chk742 (v499 : IVec S16 32) : Prop :=
  (∀ a x, ((![v499] : Fin 1 → IVec S16 32) a x).toNat < S100000.size a)
instance k0_chk742.dec : ∀ (v499 : IVec S16 32), Decidable (k0_chk742 v499) := fun v499 => decidable_of_iff' _ (Iff.of_eq (k0_chk742.eq_1 v499))
theorem k0_idx742_inb : ∀ (v499 : IVec S16 32) (k0_hw742 : k0_chk742 v499), ∀ a x, ((![v499] : Fin 1 → IVec S16 32) a x).toNat < S100000.size a := fun v499 k0_hw742 => k0_hw742
def k0_off859 (k0_t71 : Fin k0_t71_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v501 : BitVec 32 := Scalar.addi v461 c80_i32_294
  let v502 : Index := Scalar.indexCast v501
  ![v502.toNat]

def k0_chk743 (v506 : IVec S16 32) : Prop :=
  (∀ a x, ((![v506] : Fin 1 → IVec S16 32) a x).toNat < S100000.size a)
instance k0_chk743.dec : ∀ (v506 : IVec S16 32), Decidable (k0_chk743 v506) := fun v506 => decidable_of_iff' _ (Iff.of_eq (k0_chk743.eq_1 v506))
theorem k0_idx743_inb : ∀ (v506 : IVec S16 32) (k0_hw743 : k0_chk743 v506), ∀ a x, ((![v506] : Fin 1 → IVec S16 32) a x).toNat < S100000.size a := fun v506 k0_hw743 => k0_hw743
def k0_off860 (k0_t71 : Fin k0_t71_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v508 : BitVec 32 := Scalar.addi v461 c96_i32_295
  let v509 : Index := Scalar.indexCast v508
  ![v509.toNat]

def k0_chk744 (v513 : IVec S16 32) : Prop :=
  (∀ a x, ((![v513] : Fin 1 → IVec S16 32) a x).toNat < S100000.size a)
instance k0_chk744.dec : ∀ (v513 : IVec S16 32), Decidable (k0_chk744 v513) := fun v513 => decidable_of_iff' _ (Iff.of_eq (k0_chk744.eq_1 v513))
theorem k0_idx744_inb : ∀ (v513 : IVec S16 32) (k0_hw744 : k0_chk744 v513), ∀ a x, ((![v513] : Fin 1 → IVec S16 32) a x).toNat < S100000.size a := fun v513 k0_hw744 => k0_hw744
def k0_off861 (k0_t71 : Fin k0_t71_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v515 : BitVec 32 := Scalar.addi v461 c112_i32_296
  let v516 : Index := Scalar.indexCast v515
  ![v516.toNat]

def k0_chk745 (v520 : IVec S16 32) : Prop :=
  (∀ a x, ((![v520] : Fin 1 → IVec S16 32) a x).toNat < S100000.size a)
instance k0_chk745.dec : ∀ (v520 : IVec S16 32), Decidable (k0_chk745 v520) := fun v520 => decidable_of_iff' _ (Iff.of_eq (k0_chk745.eq_1 v520))
theorem k0_idx745_inb : ∀ (v520 : IVec S16 32) (k0_hw745 : k0_chk745 v520), ∀ a x, ((![v520] : Fin 1 → IVec S16 32) a x).toNat < S100000.size a := fun v520 k0_hw745 => k0_hw745
def k0_off862 (k0_t71 : Fin k0_t71_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v522 : BitVec 32 := Scalar.addi v461 c128_i32_297
  let v523 : Index := Scalar.indexCast v522
  ![v523.toNat]

def k0_chk746 (v527 : IVec S16 32) : Prop :=
  (∀ a x, ((![v527] : Fin 1 → IVec S16 32) a x).toNat < S100000.size a)
instance k0_chk746.dec : ∀ (v527 : IVec S16 32), Decidable (k0_chk746 v527) := fun v527 => decidable_of_iff' _ (Iff.of_eq (k0_chk746.eq_1 v527))
theorem k0_idx746_inb : ∀ (v527 : IVec S16 32) (k0_hw746 : k0_chk746 v527), ∀ a x, ((![v527] : Fin 1 → IVec S16 32) a x).toNat < S100000.size a := fun v527 k0_hw746 => k0_hw746
def k0_off863 (k0_t71 : Fin k0_t71_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v529 : BitVec 32 := Scalar.addi v461 c144_i32_299
  let v530 : Index := Scalar.indexCast v529
  ![v530.toNat]

def k0_chk747 (v534 : IVec S16 32) : Prop :=
  (∀ a x, ((![v534] : Fin 1 → IVec S16 32) a x).toNat < S100000.size a)
instance k0_chk747.dec : ∀ (v534 : IVec S16 32), Decidable (k0_chk747 v534) := fun v534 => decidable_of_iff' _ (Iff.of_eq (k0_chk747.eq_1 v534))
theorem k0_idx747_inb : ∀ (v534 : IVec S16 32) (k0_hw747 : k0_chk747 v534), ∀ a x, ((![v534] : Fin 1 → IVec S16 32) a x).toNat < S100000.size a := fun v534 k0_hw747 => k0_hw747
def k0_off864 (k0_t71 : Fin k0_t71_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v536 : BitVec 32 := Scalar.addi v461 c160_i32_300
  let v537 : Index := Scalar.indexCast v536
  ![v537.toNat]

def k0_chk748 (v541 : IVec S16 32) : Prop :=
  (∀ a x, ((![v541] : Fin 1 → IVec S16 32) a x).toNat < S100000.size a)
instance k0_chk748.dec : ∀ (v541 : IVec S16 32), Decidable (k0_chk748 v541) := fun v541 => decidable_of_iff' _ (Iff.of_eq (k0_chk748.eq_1 v541))
theorem k0_idx748_inb : ∀ (v541 : IVec S16 32) (k0_hw748 : k0_chk748 v541), ∀ a x, ((![v541] : Fin 1 → IVec S16 32) a x).toNat < S100000.size a := fun v541 k0_hw748 => k0_hw748
def k0_off865 (k0_t71 : Fin k0_t71_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v543 : BitVec 32 := Scalar.addi v461 c176_i32_301
  let v544 : Index := Scalar.indexCast v543
  ![v544.toNat]

def k0_chk749 (v548 : IVec S16 32) : Prop :=
  (∀ a x, ((![v548] : Fin 1 → IVec S16 32) a x).toNat < S100000.size a)
instance k0_chk749.dec : ∀ (v548 : IVec S16 32), Decidable (k0_chk749 v548) := fun v548 => decidable_of_iff' _ (Iff.of_eq (k0_chk749.eq_1 v548))
theorem k0_idx749_inb : ∀ (v548 : IVec S16 32) (k0_hw749 : k0_chk749 v548), ∀ a x, ((![v548] : Fin 1 → IVec S16 32) a x).toNat < S100000.size a := fun v548 k0_hw749 => k0_hw749
def k0_off866 (k0_t71 : Fin k0_t71_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v550 : BitVec 32 := Scalar.addi v461 c192_i32_302
  let v551 : Index := Scalar.indexCast v550
  ![v551.toNat]

def k0_chk750 (v555 : IVec S16 32) : Prop :=
  (∀ a x, ((![v555] : Fin 1 → IVec S16 32) a x).toNat < S100000.size a)
instance k0_chk750.dec : ∀ (v555 : IVec S16 32), Decidable (k0_chk750 v555) := fun v555 => decidable_of_iff' _ (Iff.of_eq (k0_chk750.eq_1 v555))
theorem k0_idx750_inb : ∀ (v555 : IVec S16 32) (k0_hw750 : k0_chk750 v555), ∀ a x, ((![v555] : Fin 1 → IVec S16 32) a x).toNat < S100000.size a := fun v555 k0_hw750 => k0_hw750
def k0_off867 (k0_t71 : Fin k0_t71_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v557 : BitVec 32 := Scalar.addi v461 c208_i32_303
  let v558 : Index := Scalar.indexCast v557
  ![v558.toNat]

def k0_chk751 (v562 : IVec S16 32) : Prop :=
  (∀ a x, ((![v562] : Fin 1 → IVec S16 32) a x).toNat < S100000.size a)
instance k0_chk751.dec : ∀ (v562 : IVec S16 32), Decidable (k0_chk751 v562) := fun v562 => decidable_of_iff' _ (Iff.of_eq (k0_chk751.eq_1 v562))
theorem k0_idx751_inb : ∀ (v562 : IVec S16 32) (k0_hw751 : k0_chk751 v562), ∀ a x, ((![v562] : Fin 1 → IVec S16 32) a x).toNat < S100000.size a := fun v562 k0_hw751 => k0_hw751
def k0_off868 (k0_t71 : Fin k0_t71_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let v564 : BitVec 32 := Scalar.addi v461 c224_i32_304
  let v565 : Index := Scalar.indexCast v564
  ![v565.toNat]

def k0_chk752 (v569 : IVec S16 32) : Prop :=
  (∀ a x, ((![v569] : Fin 1 → IVec S16 32) a x).toNat < S100000.size a)
instance k0_chk752.dec : ∀ (v569 : IVec S16 32), Decidable (k0_chk752 v569) := fun v569 => decidable_of_iff' _ (Iff.of_eq (k0_chk752.eq_1 v569))
theorem k0_idx752_inb : ∀ (v569 : IVec S16 32) (k0_hw752 : k0_chk752 v569), ∀ a x, ((![v569] : Fin 1 → IVec S16 32) a x).toNat < S100000.size a := fun v569 k0_hw752 => k0_hw752
def k0_off869 (k0_t71 : Fin k0_t71_loop.trips) : Fin 1 → Nat :=
  let c0_i32_275 : BitVec 32 := 0#32
  let c1_i32_277 : BitVec 32 := 1#32
  let arg36 : BitVec 32 := Scf.iv c0_i32_275 c1_i32_277 k0_t71
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off870 (i : grid0.Coords) (k0_t70 : Fin (k0_t70_loop i).trips) : Fin 2 → Nat :=
  let c396_i32_279 : BitVec 32 := 396#32
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c36_i32_128 : BitVec 32 := 36#32
  let c0_i32_127 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c396_i32_126 : BitVec 32 := 396#32
  let v218 : BitVec 32 := Scalar.subi v38 c396_i32_126
  let v219 : BitVec 32 := Scalar.maxsi c0_i32_127 v218
  let v220 : BitVec 32 := Scalar.minsi c36_i32_128 v219
  let v224 : BitVec 32 := Scalar.subi v220 v217
  let c1_i32_131 : BitVec 32 := 1#32
  let v226 : BitVec 32 := Scalar.divsi v224 c1_i32_131
  let v227 : BitVec 32 := Scalar.muli v226 c1_i32_131
  let v228 : BitVec 32 := Scalar.addi v217 v227
  let c1_i32_133 : BitVec 32 := 1#32
  let arg34 : BitVec 32 := Scf.iv v228 c1_i32_133 k0_t70
  let v457 : BitVec 32 := Scalar.addi c396_i32_279 arg34
  let c0_i32_287_r94 : BitVec 32 := 0#32
  ![v457.toNat, 0]
@[reducible] def k0_t72_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off871 (k0_t72 : Fin k0_t72_loop.trips) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk753 (v464 : IVec S16 32) : Prop :=
  (∀ a x, ((![v464] : Fin 1 → IVec S16 32) a x).toNat < S100000.size a)
instance k0_chk753.dec : ∀ (v464 : IVec S16 32), Decidable (k0_chk753 v464) := fun v464 => decidable_of_iff' _ (Iff.of_eq (k0_chk753.eq_1 v464))
theorem k0_idx753_inb : ∀ (v464 : IVec S16 32) (k0_hw753 : k0_chk753 v464), ∀ a x, ((![v464] : Fin 1 → IVec S16 32) a x).toNat < S100000.size a := fun v464 k0_hw753 => k0_hw753
def k0_off872 (k0_t72 : Fin k0_t72_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v466 : BitVec 32 := Scalar.addi v461 c0_i32_288
  let v467 : Index := Scalar.indexCast v466
  ![v467.toNat]

def k0_chk754 (v471 : IVec S16 32) : Prop :=
  (∀ a x, ((![v471] : Fin 1 → IVec S16 32) a x).toNat < S100000.size a)
instance k0_chk754.dec : ∀ (v471 : IVec S16 32), Decidable (k0_chk754 v471) := fun v471 => decidable_of_iff' _ (Iff.of_eq (k0_chk754.eq_1 v471))
theorem k0_idx754_inb : ∀ (v471 : IVec S16 32) (k0_hw754 : k0_chk754 v471), ∀ a x, ((![v471] : Fin 1 → IVec S16 32) a x).toNat < S100000.size a := fun v471 k0_hw754 => k0_hw754
def k0_off873 (k0_t72 : Fin k0_t72_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v473 : BitVec 32 := Scalar.addi v461 c16_i32_289
  let v474 : Index := Scalar.indexCast v473
  ![v474.toNat]

def k0_chk755 (v478 : IVec S16 32) : Prop :=
  (∀ a x, ((![v478] : Fin 1 → IVec S16 32) a x).toNat < S100000.size a)
instance k0_chk755.dec : ∀ (v478 : IVec S16 32), Decidable (k0_chk755 v478) := fun v478 => decidable_of_iff' _ (Iff.of_eq (k0_chk755.eq_1 v478))
theorem k0_idx755_inb : ∀ (v478 : IVec S16 32) (k0_hw755 : k0_chk755 v478), ∀ a x, ((![v478] : Fin 1 → IVec S16 32) a x).toNat < S100000.size a := fun v478 k0_hw755 => k0_hw755
def k0_off874 (k0_t72 : Fin k0_t72_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v480 : BitVec 32 := Scalar.addi v461 c32_i32_291
  let v481 : Index := Scalar.indexCast v480
  ![v481.toNat]

def k0_chk756 (v485 : IVec S16 32) : Prop :=
  (∀ a x, ((![v485] : Fin 1 → IVec S16 32) a x).toNat < S100000.size a)
instance k0_chk756.dec : ∀ (v485 : IVec S16 32), Decidable (k0_chk756 v485) := fun v485 => decidable_of_iff' _ (Iff.of_eq (k0_chk756.eq_1 v485))
theorem k0_idx756_inb : ∀ (v485 : IVec S16 32) (k0_hw756 : k0_chk756 v485), ∀ a x, ((![v485] : Fin 1 → IVec S16 32) a x).toNat < S100000.size a := fun v485 k0_hw756 => k0_hw756
def k0_off875 (k0_t72 : Fin k0_t72_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v487 : BitVec 32 := Scalar.addi v461 c48_i32_292
  let v488 : Index := Scalar.indexCast v487
  ![v488.toNat]

def k0_chk757 (v492 : IVec S16 32) : Prop :=
  (∀ a x, ((![v492] : Fin 1 → IVec S16 32) a x).toNat < S100000.size a)
instance k0_chk757.dec : ∀ (v492 : IVec S16 32), Decidable (k0_chk757 v492) := fun v492 => decidable_of_iff' _ (Iff.of_eq (k0_chk757.eq_1 v492))
theorem k0_idx757_inb : ∀ (v492 : IVec S16 32) (k0_hw757 : k0_chk757 v492), ∀ a x, ((![v492] : Fin 1 → IVec S16 32) a x).toNat < S100000.size a := fun v492 k0_hw757 => k0_hw757
def k0_off876 (k0_t72 : Fin k0_t72_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v494 : BitVec 32 := Scalar.addi v461 c64_i32_293
  let v495 : Index := Scalar.indexCast v494
  ![v495.toNat]

def k0_chk758 (v499 : IVec S16 32) : Prop :=
  (∀ a x, ((![v499] : Fin 1 → IVec S16 32) a x).toNat < S100000.size a)
instance k0_chk758.dec : ∀ (v499 : IVec S16 32), Decidable (k0_chk758 v499) := fun v499 => decidable_of_iff' _ (Iff.of_eq (k0_chk758.eq_1 v499))
theorem k0_idx758_inb : ∀ (v499 : IVec S16 32) (k0_hw758 : k0_chk758 v499), ∀ a x, ((![v499] : Fin 1 → IVec S16 32) a x).toNat < S100000.size a := fun v499 k0_hw758 => k0_hw758
def k0_off877 (k0_t72 : Fin k0_t72_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v501 : BitVec 32 := Scalar.addi v461 c80_i32_294
  let v502 : Index := Scalar.indexCast v501
  ![v502.toNat]

def k0_chk759 (v506 : IVec S16 32) : Prop :=
  (∀ a x, ((![v506] : Fin 1 → IVec S16 32) a x).toNat < S100000.size a)
instance k0_chk759.dec : ∀ (v506 : IVec S16 32), Decidable (k0_chk759 v506) := fun v506 => decidable_of_iff' _ (Iff.of_eq (k0_chk759.eq_1 v506))
theorem k0_idx759_inb : ∀ (v506 : IVec S16 32) (k0_hw759 : k0_chk759 v506), ∀ a x, ((![v506] : Fin 1 → IVec S16 32) a x).toNat < S100000.size a := fun v506 k0_hw759 => k0_hw759
def k0_off878 (k0_t72 : Fin k0_t72_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v508 : BitVec 32 := Scalar.addi v461 c96_i32_295
  let v509 : Index := Scalar.indexCast v508
  ![v509.toNat]

def k0_chk760 (v513 : IVec S16 32) : Prop :=
  (∀ a x, ((![v513] : Fin 1 → IVec S16 32) a x).toNat < S100000.size a)
instance k0_chk760.dec : ∀ (v513 : IVec S16 32), Decidable (k0_chk760 v513) := fun v513 => decidable_of_iff' _ (Iff.of_eq (k0_chk760.eq_1 v513))
theorem k0_idx760_inb : ∀ (v513 : IVec S16 32) (k0_hw760 : k0_chk760 v513), ∀ a x, ((![v513] : Fin 1 → IVec S16 32) a x).toNat < S100000.size a := fun v513 k0_hw760 => k0_hw760
def k0_off879 (k0_t72 : Fin k0_t72_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v515 : BitVec 32 := Scalar.addi v461 c112_i32_296
  let v516 : Index := Scalar.indexCast v515
  ![v516.toNat]

def k0_chk761 (v520 : IVec S16 32) : Prop :=
  (∀ a x, ((![v520] : Fin 1 → IVec S16 32) a x).toNat < S100000.size a)
instance k0_chk761.dec : ∀ (v520 : IVec S16 32), Decidable (k0_chk761 v520) := fun v520 => decidable_of_iff' _ (Iff.of_eq (k0_chk761.eq_1 v520))
theorem k0_idx761_inb : ∀ (v520 : IVec S16 32) (k0_hw761 : k0_chk761 v520), ∀ a x, ((![v520] : Fin 1 → IVec S16 32) a x).toNat < S100000.size a := fun v520 k0_hw761 => k0_hw761
def k0_off880 (k0_t72 : Fin k0_t72_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v522 : BitVec 32 := Scalar.addi v461 c128_i32_297
  let v523 : Index := Scalar.indexCast v522
  ![v523.toNat]

def k0_chk762 (v527 : IVec S16 32) : Prop :=
  (∀ a x, ((![v527] : Fin 1 → IVec S16 32) a x).toNat < S100000.size a)
instance k0_chk762.dec : ∀ (v527 : IVec S16 32), Decidable (k0_chk762 v527) := fun v527 => decidable_of_iff' _ (Iff.of_eq (k0_chk762.eq_1 v527))
theorem k0_idx762_inb : ∀ (v527 : IVec S16 32) (k0_hw762 : k0_chk762 v527), ∀ a x, ((![v527] : Fin 1 → IVec S16 32) a x).toNat < S100000.size a := fun v527 k0_hw762 => k0_hw762
def k0_off881 (k0_t72 : Fin k0_t72_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v529 : BitVec 32 := Scalar.addi v461 c144_i32_299
  let v530 : Index := Scalar.indexCast v529
  ![v530.toNat]

def k0_chk763 (v534 : IVec S16 32) : Prop :=
  (∀ a x, ((![v534] : Fin 1 → IVec S16 32) a x).toNat < S100000.size a)
instance k0_chk763.dec : ∀ (v534 : IVec S16 32), Decidable (k0_chk763 v534) := fun v534 => decidable_of_iff' _ (Iff.of_eq (k0_chk763.eq_1 v534))
theorem k0_idx763_inb : ∀ (v534 : IVec S16 32) (k0_hw763 : k0_chk763 v534), ∀ a x, ((![v534] : Fin 1 → IVec S16 32) a x).toNat < S100000.size a := fun v534 k0_hw763 => k0_hw763
def k0_off882 (k0_t72 : Fin k0_t72_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v536 : BitVec 32 := Scalar.addi v461 c160_i32_300
  let v537 : Index := Scalar.indexCast v536
  ![v537.toNat]

def k0_chk764 (v541 : IVec S16 32) : Prop :=
  (∀ a x, ((![v541] : Fin 1 → IVec S16 32) a x).toNat < S100000.size a)
instance k0_chk764.dec : ∀ (v541 : IVec S16 32), Decidable (k0_chk764 v541) := fun v541 => decidable_of_iff' _ (Iff.of_eq (k0_chk764.eq_1 v541))
theorem k0_idx764_inb : ∀ (v541 : IVec S16 32) (k0_hw764 : k0_chk764 v541), ∀ a x, ((![v541] : Fin 1 → IVec S16 32) a x).toNat < S100000.size a := fun v541 k0_hw764 => k0_hw764
def k0_off883 (k0_t72 : Fin k0_t72_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v543 : BitVec 32 := Scalar.addi v461 c176_i32_301
  let v544 : Index := Scalar.indexCast v543
  ![v544.toNat]

def k0_chk765 (v548 : IVec S16 32) : Prop :=
  (∀ a x, ((![v548] : Fin 1 → IVec S16 32) a x).toNat < S100000.size a)
instance k0_chk765.dec : ∀ (v548 : IVec S16 32), Decidable (k0_chk765 v548) := fun v548 => decidable_of_iff' _ (Iff.of_eq (k0_chk765.eq_1 v548))
theorem k0_idx765_inb : ∀ (v548 : IVec S16 32) (k0_hw765 : k0_chk765 v548), ∀ a x, ((![v548] : Fin 1 → IVec S16 32) a x).toNat < S100000.size a := fun v548 k0_hw765 => k0_hw765
def k0_off884 (k0_t72 : Fin k0_t72_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v550 : BitVec 32 := Scalar.addi v461 c192_i32_302
  let v551 : Index := Scalar.indexCast v550
  ![v551.toNat]

def k0_chk766 (v555 : IVec S16 32) : Prop :=
  (∀ a x, ((![v555] : Fin 1 → IVec S16 32) a x).toNat < S100000.size a)
instance k0_chk766.dec : ∀ (v555 : IVec S16 32), Decidable (k0_chk766 v555) := fun v555 => decidable_of_iff' _ (Iff.of_eq (k0_chk766.eq_1 v555))
theorem k0_idx766_inb : ∀ (v555 : IVec S16 32) (k0_hw766 : k0_chk766 v555), ∀ a x, ((![v555] : Fin 1 → IVec S16 32) a x).toNat < S100000.size a := fun v555 k0_hw766 => k0_hw766
def k0_off885 (k0_t72 : Fin k0_t72_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v557 : BitVec 32 := Scalar.addi v461 c208_i32_303
  let v558 : Index := Scalar.indexCast v557
  ![v558.toNat]

def k0_chk767 (v562 : IVec S16 32) : Prop :=
  (∀ a x, ((![v562] : Fin 1 → IVec S16 32) a x).toNat < S100000.size a)
instance k0_chk767.dec : ∀ (v562 : IVec S16 32), Decidable (k0_chk767 v562) := fun v562 => decidable_of_iff' _ (Iff.of_eq (k0_chk767.eq_1 v562))
theorem k0_idx767_inb : ∀ (v562 : IVec S16 32) (k0_hw767 : k0_chk767 v562), ∀ a x, ((![v562] : Fin 1 → IVec S16 32) a x).toNat < S100000.size a := fun v562 k0_hw767 => k0_hw767
def k0_off886 (k0_t72 : Fin k0_t72_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let v564 : BitVec 32 := Scalar.addi v461 c224_i32_304
  let v565 : Index := Scalar.indexCast v564
  ![v565.toNat]

def k0_chk768 (v569 : IVec S16 32) : Prop :=
  (∀ a x, ((![v569] : Fin 1 → IVec S16 32) a x).toNat < S100000.size a)
instance k0_chk768.dec : ∀ (v569 : IVec S16 32), Decidable (k0_chk768 v569) := fun v569 => decidable_of_iff' _ (Iff.of_eq (k0_chk768.eq_1 v569))
theorem k0_idx768_inb : ∀ (v569 : IVec S16 32) (k0_hw768 : k0_chk768 v569), ∀ a x, ((![v569] : Fin 1 → IVec S16 32) a x).toNat < S100000.size a := fun v569 k0_hw768 => k0_hw768
def k0_off887 (k0_t72 : Fin k0_t72_loop.trips) : Fin 1 → Nat :=
  let c0_i32_281 : BitVec 32 := 0#32
  let c1_i32_283 : BitVec 32 := 1#32
  let arg36 : BitVec 32 := Scf.iv c0_i32_281 c1_i32_283 k0_t72
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off888 (i : grid0.Coords) (k0_t70 : Fin (k0_t70_loop i).trips) : Fin 2 → Nat :=
  let c396_i32_285 : BitVec 32 := 396#32
  let c36_i32_125 : BitVec 32 := 36#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c396_i32 : BitVec 32 := 396#32
  let v215 : BitVec 32 := Scalar.subi v19 c396_i32
  let v216 : BitVec 32 := Scalar.maxsi c0_i32_124 v215
  let v217 : BitVec 32 := Scalar.minsi c36_i32_125 v216
  let c36_i32_128 : BitVec 32 := 36#32
  let c0_i32_127 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c396_i32_126 : BitVec 32 := 396#32
  let v218 : BitVec 32 := Scalar.subi v38 c396_i32_126
  let v219 : BitVec 32 := Scalar.maxsi c0_i32_127 v218
  let v220 : BitVec 32 := Scalar.minsi c36_i32_128 v219
  let v224 : BitVec 32 := Scalar.subi v220 v217
  let c1_i32_131 : BitVec 32 := 1#32
  let v226 : BitVec 32 := Scalar.divsi v224 c1_i32_131
  let v227 : BitVec 32 := Scalar.muli v226 c1_i32_131
  let v228 : BitVec 32 := Scalar.addi v217 v227
  let c1_i32_133 : BitVec 32 := 1#32
  let arg34 : BitVec 32 := Scf.iv v228 c1_i32_133 k0_t70
  let v460 : BitVec 32 := Scalar.addi c396_i32_285 arg34
  let c8192_i32_r95 : BitVec 32 := 8192#32
  ![v460.toNat, 8192]
@[reducible] def k0_t73_loop (i : grid0.Coords) : Scf.Loop 32 :=
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c36_i32_138 : BitVec 32 := 36#32
  let c0_i32_137 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c432_i32_136 : BitVec 32 := 432#32
  let v234 : BitVec 32 := Scalar.subi v38 c432_i32_136
  let v235 : BitVec 32 := Scalar.maxsi c0_i32_137 v234
  let v236 : BitVec 32 := Scalar.minsi c36_i32_138 v235
  let v240 : BitVec 32 := Scalar.subi v236 v233
  let c1_i32_141 : BitVec 32 := 1#32
  let v242 : BitVec 32 := Scalar.divsi v240 c1_i32_141
  let v243 : BitVec 32 := Scalar.muli v242 c1_i32_141
  let v244 : BitVec 32 := Scalar.addi v233 v243
  let c1_i32_142 : BitVec 32 := 1#32
  ⟨v233, v244, c1_i32_142⟩
def k0_off889 (i : grid0.Coords) (k0_t73 : Fin (k0_t73_loop i).trips) : Fin 2 → Nat :=
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c1_i32_142 : BitVec 32 := 1#32
  let arg34 : BitVec 32 := Scf.iv v233 c1_i32_142 k0_t73
  let c0_i32_287_r98 : BitVec 32 := 0#32
  ![arg34.toNat, 0]
@[reducible] def k0_t74_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off890 (k0_t74 : Fin k0_t74_loop.trips) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk769 (v464 : IVec S16 32) : Prop :=
  (∀ a x, ((![v464] : Fin 1 → IVec S16 32) a x).toNat < S100000.size a)
instance k0_chk769.dec : ∀ (v464 : IVec S16 32), Decidable (k0_chk769 v464) := fun v464 => decidable_of_iff' _ (Iff.of_eq (k0_chk769.eq_1 v464))
theorem k0_idx769_inb : ∀ (v464 : IVec S16 32) (k0_hw769 : k0_chk769 v464), ∀ a x, ((![v464] : Fin 1 → IVec S16 32) a x).toNat < S100000.size a := fun v464 k0_hw769 => k0_hw769
def k0_off891 (k0_t74 : Fin k0_t74_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v466 : BitVec 32 := Scalar.addi v461 c0_i32_288
  let v467 : Index := Scalar.indexCast v466
  ![v467.toNat]

def k0_chk770 (v471 : IVec S16 32) : Prop :=
  (∀ a x, ((![v471] : Fin 1 → IVec S16 32) a x).toNat < S100000.size a)
instance k0_chk770.dec : ∀ (v471 : IVec S16 32), Decidable (k0_chk770 v471) := fun v471 => decidable_of_iff' _ (Iff.of_eq (k0_chk770.eq_1 v471))
theorem k0_idx770_inb : ∀ (v471 : IVec S16 32) (k0_hw770 : k0_chk770 v471), ∀ a x, ((![v471] : Fin 1 → IVec S16 32) a x).toNat < S100000.size a := fun v471 k0_hw770 => k0_hw770
def k0_off892 (k0_t74 : Fin k0_t74_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v473 : BitVec 32 := Scalar.addi v461 c16_i32_289
  let v474 : Index := Scalar.indexCast v473
  ![v474.toNat]

def k0_chk771 (v478 : IVec S16 32) : Prop :=
  (∀ a x, ((![v478] : Fin 1 → IVec S16 32) a x).toNat < S100000.size a)
instance k0_chk771.dec : ∀ (v478 : IVec S16 32), Decidable (k0_chk771 v478) := fun v478 => decidable_of_iff' _ (Iff.of_eq (k0_chk771.eq_1 v478))
theorem k0_idx771_inb : ∀ (v478 : IVec S16 32) (k0_hw771 : k0_chk771 v478), ∀ a x, ((![v478] : Fin 1 → IVec S16 32) a x).toNat < S100000.size a := fun v478 k0_hw771 => k0_hw771
def k0_off893 (k0_t74 : Fin k0_t74_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v480 : BitVec 32 := Scalar.addi v461 c32_i32_291
  let v481 : Index := Scalar.indexCast v480
  ![v481.toNat]

def k0_chk772 (v485 : IVec S16 32) : Prop :=
  (∀ a x, ((![v485] : Fin 1 → IVec S16 32) a x).toNat < S100000.size a)
instance k0_chk772.dec : ∀ (v485 : IVec S16 32), Decidable (k0_chk772 v485) := fun v485 => decidable_of_iff' _ (Iff.of_eq (k0_chk772.eq_1 v485))
theorem k0_idx772_inb : ∀ (v485 : IVec S16 32) (k0_hw772 : k0_chk772 v485), ∀ a x, ((![v485] : Fin 1 → IVec S16 32) a x).toNat < S100000.size a := fun v485 k0_hw772 => k0_hw772
def k0_off894 (k0_t74 : Fin k0_t74_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v487 : BitVec 32 := Scalar.addi v461 c48_i32_292
  let v488 : Index := Scalar.indexCast v487
  ![v488.toNat]

def k0_chk773 (v492 : IVec S16 32) : Prop :=
  (∀ a x, ((![v492] : Fin 1 → IVec S16 32) a x).toNat < S100000.size a)
instance k0_chk773.dec : ∀ (v492 : IVec S16 32), Decidable (k0_chk773 v492) := fun v492 => decidable_of_iff' _ (Iff.of_eq (k0_chk773.eq_1 v492))
theorem k0_idx773_inb : ∀ (v492 : IVec S16 32) (k0_hw773 : k0_chk773 v492), ∀ a x, ((![v492] : Fin 1 → IVec S16 32) a x).toNat < S100000.size a := fun v492 k0_hw773 => k0_hw773
def k0_off895 (k0_t74 : Fin k0_t74_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v494 : BitVec 32 := Scalar.addi v461 c64_i32_293
  let v495 : Index := Scalar.indexCast v494
  ![v495.toNat]

def k0_chk774 (v499 : IVec S16 32) : Prop :=
  (∀ a x, ((![v499] : Fin 1 → IVec S16 32) a x).toNat < S100000.size a)
instance k0_chk774.dec : ∀ (v499 : IVec S16 32), Decidable (k0_chk774 v499) := fun v499 => decidable_of_iff' _ (Iff.of_eq (k0_chk774.eq_1 v499))
theorem k0_idx774_inb : ∀ (v499 : IVec S16 32) (k0_hw774 : k0_chk774 v499), ∀ a x, ((![v499] : Fin 1 → IVec S16 32) a x).toNat < S100000.size a := fun v499 k0_hw774 => k0_hw774
def k0_off896 (k0_t74 : Fin k0_t74_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v501 : BitVec 32 := Scalar.addi v461 c80_i32_294
  let v502 : Index := Scalar.indexCast v501
  ![v502.toNat]

def k0_chk775 (v506 : IVec S16 32) : Prop :=
  (∀ a x, ((![v506] : Fin 1 → IVec S16 32) a x).toNat < S100000.size a)
instance k0_chk775.dec : ∀ (v506 : IVec S16 32), Decidable (k0_chk775 v506) := fun v506 => decidable_of_iff' _ (Iff.of_eq (k0_chk775.eq_1 v506))
theorem k0_idx775_inb : ∀ (v506 : IVec S16 32) (k0_hw775 : k0_chk775 v506), ∀ a x, ((![v506] : Fin 1 → IVec S16 32) a x).toNat < S100000.size a := fun v506 k0_hw775 => k0_hw775
def k0_off897 (k0_t74 : Fin k0_t74_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v508 : BitVec 32 := Scalar.addi v461 c96_i32_295
  let v509 : Index := Scalar.indexCast v508
  ![v509.toNat]

def k0_chk776 (v513 : IVec S16 32) : Prop :=
  (∀ a x, ((![v513] : Fin 1 → IVec S16 32) a x).toNat < S100000.size a)
instance k0_chk776.dec : ∀ (v513 : IVec S16 32), Decidable (k0_chk776 v513) := fun v513 => decidable_of_iff' _ (Iff.of_eq (k0_chk776.eq_1 v513))
theorem k0_idx776_inb : ∀ (v513 : IVec S16 32) (k0_hw776 : k0_chk776 v513), ∀ a x, ((![v513] : Fin 1 → IVec S16 32) a x).toNat < S100000.size a := fun v513 k0_hw776 => k0_hw776
def k0_off898 (k0_t74 : Fin k0_t74_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v515 : BitVec 32 := Scalar.addi v461 c112_i32_296
  let v516 : Index := Scalar.indexCast v515
  ![v516.toNat]

def k0_chk777 (v520 : IVec S16 32) : Prop :=
  (∀ a x, ((![v520] : Fin 1 → IVec S16 32) a x).toNat < S100000.size a)
instance k0_chk777.dec : ∀ (v520 : IVec S16 32), Decidable (k0_chk777 v520) := fun v520 => decidable_of_iff' _ (Iff.of_eq (k0_chk777.eq_1 v520))
theorem k0_idx777_inb : ∀ (v520 : IVec S16 32) (k0_hw777 : k0_chk777 v520), ∀ a x, ((![v520] : Fin 1 → IVec S16 32) a x).toNat < S100000.size a := fun v520 k0_hw777 => k0_hw777
def k0_off899 (k0_t74 : Fin k0_t74_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v522 : BitVec 32 := Scalar.addi v461 c128_i32_297
  let v523 : Index := Scalar.indexCast v522
  ![v523.toNat]

def k0_chk778 (v527 : IVec S16 32) : Prop :=
  (∀ a x, ((![v527] : Fin 1 → IVec S16 32) a x).toNat < S100000.size a)
instance k0_chk778.dec : ∀ (v527 : IVec S16 32), Decidable (k0_chk778 v527) := fun v527 => decidable_of_iff' _ (Iff.of_eq (k0_chk778.eq_1 v527))
theorem k0_idx778_inb : ∀ (v527 : IVec S16 32) (k0_hw778 : k0_chk778 v527), ∀ a x, ((![v527] : Fin 1 → IVec S16 32) a x).toNat < S100000.size a := fun v527 k0_hw778 => k0_hw778
def k0_off900 (k0_t74 : Fin k0_t74_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v529 : BitVec 32 := Scalar.addi v461 c144_i32_299
  let v530 : Index := Scalar.indexCast v529
  ![v530.toNat]

def k0_chk779 (v534 : IVec S16 32) : Prop :=
  (∀ a x, ((![v534] : Fin 1 → IVec S16 32) a x).toNat < S100000.size a)
instance k0_chk779.dec : ∀ (v534 : IVec S16 32), Decidable (k0_chk779 v534) := fun v534 => decidable_of_iff' _ (Iff.of_eq (k0_chk779.eq_1 v534))
theorem k0_idx779_inb : ∀ (v534 : IVec S16 32) (k0_hw779 : k0_chk779 v534), ∀ a x, ((![v534] : Fin 1 → IVec S16 32) a x).toNat < S100000.size a := fun v534 k0_hw779 => k0_hw779
def k0_off901 (k0_t74 : Fin k0_t74_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v536 : BitVec 32 := Scalar.addi v461 c160_i32_300
  let v537 : Index := Scalar.indexCast v536
  ![v537.toNat]

def k0_chk780 (v541 : IVec S16 32) : Prop :=
  (∀ a x, ((![v541] : Fin 1 → IVec S16 32) a x).toNat < S100000.size a)
instance k0_chk780.dec : ∀ (v541 : IVec S16 32), Decidable (k0_chk780 v541) := fun v541 => decidable_of_iff' _ (Iff.of_eq (k0_chk780.eq_1 v541))
theorem k0_idx780_inb : ∀ (v541 : IVec S16 32) (k0_hw780 : k0_chk780 v541), ∀ a x, ((![v541] : Fin 1 → IVec S16 32) a x).toNat < S100000.size a := fun v541 k0_hw780 => k0_hw780
def k0_off902 (k0_t74 : Fin k0_t74_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v543 : BitVec 32 := Scalar.addi v461 c176_i32_301
  let v544 : Index := Scalar.indexCast v543
  ![v544.toNat]

def k0_chk781 (v548 : IVec S16 32) : Prop :=
  (∀ a x, ((![v548] : Fin 1 → IVec S16 32) a x).toNat < S100000.size a)
instance k0_chk781.dec : ∀ (v548 : IVec S16 32), Decidable (k0_chk781 v548) := fun v548 => decidable_of_iff' _ (Iff.of_eq (k0_chk781.eq_1 v548))
theorem k0_idx781_inb : ∀ (v548 : IVec S16 32) (k0_hw781 : k0_chk781 v548), ∀ a x, ((![v548] : Fin 1 → IVec S16 32) a x).toNat < S100000.size a := fun v548 k0_hw781 => k0_hw781
def k0_off903 (k0_t74 : Fin k0_t74_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v550 : BitVec 32 := Scalar.addi v461 c192_i32_302
  let v551 : Index := Scalar.indexCast v550
  ![v551.toNat]

def k0_chk782 (v555 : IVec S16 32) : Prop :=
  (∀ a x, ((![v555] : Fin 1 → IVec S16 32) a x).toNat < S100000.size a)
instance k0_chk782.dec : ∀ (v555 : IVec S16 32), Decidable (k0_chk782 v555) := fun v555 => decidable_of_iff' _ (Iff.of_eq (k0_chk782.eq_1 v555))
theorem k0_idx782_inb : ∀ (v555 : IVec S16 32) (k0_hw782 : k0_chk782 v555), ∀ a x, ((![v555] : Fin 1 → IVec S16 32) a x).toNat < S100000.size a := fun v555 k0_hw782 => k0_hw782
def k0_off904 (k0_t74 : Fin k0_t74_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v557 : BitVec 32 := Scalar.addi v461 c208_i32_303
  let v558 : Index := Scalar.indexCast v557
  ![v558.toNat]

def k0_chk783 (v562 : IVec S16 32) : Prop :=
  (∀ a x, ((![v562] : Fin 1 → IVec S16 32) a x).toNat < S100000.size a)
instance k0_chk783.dec : ∀ (v562 : IVec S16 32), Decidable (k0_chk783 v562) := fun v562 => decidable_of_iff' _ (Iff.of_eq (k0_chk783.eq_1 v562))
theorem k0_idx783_inb : ∀ (v562 : IVec S16 32) (k0_hw783 : k0_chk783 v562), ∀ a x, ((![v562] : Fin 1 → IVec S16 32) a x).toNat < S100000.size a := fun v562 k0_hw783 => k0_hw783
def k0_off905 (k0_t74 : Fin k0_t74_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let v564 : BitVec 32 := Scalar.addi v461 c224_i32_304
  let v565 : Index := Scalar.indexCast v564
  ![v565.toNat]

def k0_chk784 (v569 : IVec S16 32) : Prop :=
  (∀ a x, ((![v569] : Fin 1 → IVec S16 32) a x).toNat < S100000.size a)
instance k0_chk784.dec : ∀ (v569 : IVec S16 32), Decidable (k0_chk784 v569) := fun v569 => decidable_of_iff' _ (Iff.of_eq (k0_chk784.eq_1 v569))
theorem k0_idx784_inb : ∀ (v569 : IVec S16 32) (k0_hw784 : k0_chk784 v569), ∀ a x, ((![v569] : Fin 1 → IVec S16 32) a x).toNat < S100000.size a := fun v569 k0_hw784 => k0_hw784
def k0_off906 (k0_t74 : Fin k0_t74_loop.trips) : Fin 1 → Nat :=
  let c0_i32_275 : BitVec 32 := 0#32
  let c1_i32_277 : BitVec 32 := 1#32
  let arg36 : BitVec 32 := Scf.iv c0_i32_275 c1_i32_277 k0_t74
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off907 (i : grid0.Coords) (k0_t73 : Fin (k0_t73_loop i).trips) : Fin 2 → Nat :=
  let c432_i32_279 : BitVec 32 := 432#32
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c1_i32_142 : BitVec 32 := 1#32
  let arg34 : BitVec 32 := Scf.iv v233 c1_i32_142 k0_t73
  let v457 : BitVec 32 := Scalar.addi c432_i32_279 arg34
  let c0_i32_287_r99 : BitVec 32 := 0#32
  ![v457.toNat, 0]
@[reducible] def k0_t75_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off908 (k0_t75 : Fin k0_t75_loop.trips) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk785 (v464 : IVec S16 32) : Prop :=
  (∀ a x, ((![v464] : Fin 1 → IVec S16 32) a x).toNat < S100000.size a)
instance k0_chk785.dec : ∀ (v464 : IVec S16 32), Decidable (k0_chk785 v464) := fun v464 => decidable_of_iff' _ (Iff.of_eq (k0_chk785.eq_1 v464))
theorem k0_idx785_inb : ∀ (v464 : IVec S16 32) (k0_hw785 : k0_chk785 v464), ∀ a x, ((![v464] : Fin 1 → IVec S16 32) a x).toNat < S100000.size a := fun v464 k0_hw785 => k0_hw785
def k0_off909 (k0_t75 : Fin k0_t75_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v466 : BitVec 32 := Scalar.addi v461 c0_i32_288
  let v467 : Index := Scalar.indexCast v466
  ![v467.toNat]

def k0_chk786 (v471 : IVec S16 32) : Prop :=
  (∀ a x, ((![v471] : Fin 1 → IVec S16 32) a x).toNat < S100000.size a)
instance k0_chk786.dec : ∀ (v471 : IVec S16 32), Decidable (k0_chk786 v471) := fun v471 => decidable_of_iff' _ (Iff.of_eq (k0_chk786.eq_1 v471))
theorem k0_idx786_inb : ∀ (v471 : IVec S16 32) (k0_hw786 : k0_chk786 v471), ∀ a x, ((![v471] : Fin 1 → IVec S16 32) a x).toNat < S100000.size a := fun v471 k0_hw786 => k0_hw786
def k0_off910 (k0_t75 : Fin k0_t75_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v473 : BitVec 32 := Scalar.addi v461 c16_i32_289
  let v474 : Index := Scalar.indexCast v473
  ![v474.toNat]

def k0_chk787 (v478 : IVec S16 32) : Prop :=
  (∀ a x, ((![v478] : Fin 1 → IVec S16 32) a x).toNat < S100000.size a)
instance k0_chk787.dec : ∀ (v478 : IVec S16 32), Decidable (k0_chk787 v478) := fun v478 => decidable_of_iff' _ (Iff.of_eq (k0_chk787.eq_1 v478))
theorem k0_idx787_inb : ∀ (v478 : IVec S16 32) (k0_hw787 : k0_chk787 v478), ∀ a x, ((![v478] : Fin 1 → IVec S16 32) a x).toNat < S100000.size a := fun v478 k0_hw787 => k0_hw787
def k0_off911 (k0_t75 : Fin k0_t75_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v480 : BitVec 32 := Scalar.addi v461 c32_i32_291
  let v481 : Index := Scalar.indexCast v480
  ![v481.toNat]

def k0_chk788 (v485 : IVec S16 32) : Prop :=
  (∀ a x, ((![v485] : Fin 1 → IVec S16 32) a x).toNat < S100000.size a)
instance k0_chk788.dec : ∀ (v485 : IVec S16 32), Decidable (k0_chk788 v485) := fun v485 => decidable_of_iff' _ (Iff.of_eq (k0_chk788.eq_1 v485))
theorem k0_idx788_inb : ∀ (v485 : IVec S16 32) (k0_hw788 : k0_chk788 v485), ∀ a x, ((![v485] : Fin 1 → IVec S16 32) a x).toNat < S100000.size a := fun v485 k0_hw788 => k0_hw788
def k0_off912 (k0_t75 : Fin k0_t75_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v487 : BitVec 32 := Scalar.addi v461 c48_i32_292
  let v488 : Index := Scalar.indexCast v487
  ![v488.toNat]

def k0_chk789 (v492 : IVec S16 32) : Prop :=
  (∀ a x, ((![v492] : Fin 1 → IVec S16 32) a x).toNat < S100000.size a)
instance k0_chk789.dec : ∀ (v492 : IVec S16 32), Decidable (k0_chk789 v492) := fun v492 => decidable_of_iff' _ (Iff.of_eq (k0_chk789.eq_1 v492))
theorem k0_idx789_inb : ∀ (v492 : IVec S16 32) (k0_hw789 : k0_chk789 v492), ∀ a x, ((![v492] : Fin 1 → IVec S16 32) a x).toNat < S100000.size a := fun v492 k0_hw789 => k0_hw789
def k0_off913 (k0_t75 : Fin k0_t75_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v494 : BitVec 32 := Scalar.addi v461 c64_i32_293
  let v495 : Index := Scalar.indexCast v494
  ![v495.toNat]

def k0_chk790 (v499 : IVec S16 32) : Prop :=
  (∀ a x, ((![v499] : Fin 1 → IVec S16 32) a x).toNat < S100000.size a)
instance k0_chk790.dec : ∀ (v499 : IVec S16 32), Decidable (k0_chk790 v499) := fun v499 => decidable_of_iff' _ (Iff.of_eq (k0_chk790.eq_1 v499))
theorem k0_idx790_inb : ∀ (v499 : IVec S16 32) (k0_hw790 : k0_chk790 v499), ∀ a x, ((![v499] : Fin 1 → IVec S16 32) a x).toNat < S100000.size a := fun v499 k0_hw790 => k0_hw790
def k0_off914 (k0_t75 : Fin k0_t75_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v501 : BitVec 32 := Scalar.addi v461 c80_i32_294
  let v502 : Index := Scalar.indexCast v501
  ![v502.toNat]

def k0_chk791 (v506 : IVec S16 32) : Prop :=
  (∀ a x, ((![v506] : Fin 1 → IVec S16 32) a x).toNat < S100000.size a)
instance k0_chk791.dec : ∀ (v506 : IVec S16 32), Decidable (k0_chk791 v506) := fun v506 => decidable_of_iff' _ (Iff.of_eq (k0_chk791.eq_1 v506))
theorem k0_idx791_inb : ∀ (v506 : IVec S16 32) (k0_hw791 : k0_chk791 v506), ∀ a x, ((![v506] : Fin 1 → IVec S16 32) a x).toNat < S100000.size a := fun v506 k0_hw791 => k0_hw791
def k0_off915 (k0_t75 : Fin k0_t75_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v508 : BitVec 32 := Scalar.addi v461 c96_i32_295
  let v509 : Index := Scalar.indexCast v508
  ![v509.toNat]

def k0_chk792 (v513 : IVec S16 32) : Prop :=
  (∀ a x, ((![v513] : Fin 1 → IVec S16 32) a x).toNat < S100000.size a)
instance k0_chk792.dec : ∀ (v513 : IVec S16 32), Decidable (k0_chk792 v513) := fun v513 => decidable_of_iff' _ (Iff.of_eq (k0_chk792.eq_1 v513))
theorem k0_idx792_inb : ∀ (v513 : IVec S16 32) (k0_hw792 : k0_chk792 v513), ∀ a x, ((![v513] : Fin 1 → IVec S16 32) a x).toNat < S100000.size a := fun v513 k0_hw792 => k0_hw792
def k0_off916 (k0_t75 : Fin k0_t75_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v515 : BitVec 32 := Scalar.addi v461 c112_i32_296
  let v516 : Index := Scalar.indexCast v515
  ![v516.toNat]

def k0_chk793 (v520 : IVec S16 32) : Prop :=
  (∀ a x, ((![v520] : Fin 1 → IVec S16 32) a x).toNat < S100000.size a)
instance k0_chk793.dec : ∀ (v520 : IVec S16 32), Decidable (k0_chk793 v520) := fun v520 => decidable_of_iff' _ (Iff.of_eq (k0_chk793.eq_1 v520))
theorem k0_idx793_inb : ∀ (v520 : IVec S16 32) (k0_hw793 : k0_chk793 v520), ∀ a x, ((![v520] : Fin 1 → IVec S16 32) a x).toNat < S100000.size a := fun v520 k0_hw793 => k0_hw793
def k0_off917 (k0_t75 : Fin k0_t75_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v522 : BitVec 32 := Scalar.addi v461 c128_i32_297
  let v523 : Index := Scalar.indexCast v522
  ![v523.toNat]

def k0_chk794 (v527 : IVec S16 32) : Prop :=
  (∀ a x, ((![v527] : Fin 1 → IVec S16 32) a x).toNat < S100000.size a)
instance k0_chk794.dec : ∀ (v527 : IVec S16 32), Decidable (k0_chk794 v527) := fun v527 => decidable_of_iff' _ (Iff.of_eq (k0_chk794.eq_1 v527))
theorem k0_idx794_inb : ∀ (v527 : IVec S16 32) (k0_hw794 : k0_chk794 v527), ∀ a x, ((![v527] : Fin 1 → IVec S16 32) a x).toNat < S100000.size a := fun v527 k0_hw794 => k0_hw794
def k0_off918 (k0_t75 : Fin k0_t75_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v529 : BitVec 32 := Scalar.addi v461 c144_i32_299
  let v530 : Index := Scalar.indexCast v529
  ![v530.toNat]

def k0_chk795 (v534 : IVec S16 32) : Prop :=
  (∀ a x, ((![v534] : Fin 1 → IVec S16 32) a x).toNat < S100000.size a)
instance k0_chk795.dec : ∀ (v534 : IVec S16 32), Decidable (k0_chk795 v534) := fun v534 => decidable_of_iff' _ (Iff.of_eq (k0_chk795.eq_1 v534))
theorem k0_idx795_inb : ∀ (v534 : IVec S16 32) (k0_hw795 : k0_chk795 v534), ∀ a x, ((![v534] : Fin 1 → IVec S16 32) a x).toNat < S100000.size a := fun v534 k0_hw795 => k0_hw795
def k0_off919 (k0_t75 : Fin k0_t75_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v536 : BitVec 32 := Scalar.addi v461 c160_i32_300
  let v537 : Index := Scalar.indexCast v536
  ![v537.toNat]

def k0_chk796 (v541 : IVec S16 32) : Prop :=
  (∀ a x, ((![v541] : Fin 1 → IVec S16 32) a x).toNat < S100000.size a)
instance k0_chk796.dec : ∀ (v541 : IVec S16 32), Decidable (k0_chk796 v541) := fun v541 => decidable_of_iff' _ (Iff.of_eq (k0_chk796.eq_1 v541))
theorem k0_idx796_inb : ∀ (v541 : IVec S16 32) (k0_hw796 : k0_chk796 v541), ∀ a x, ((![v541] : Fin 1 → IVec S16 32) a x).toNat < S100000.size a := fun v541 k0_hw796 => k0_hw796
def k0_off920 (k0_t75 : Fin k0_t75_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v543 : BitVec 32 := Scalar.addi v461 c176_i32_301
  let v544 : Index := Scalar.indexCast v543
  ![v544.toNat]

def k0_chk797 (v548 : IVec S16 32) : Prop :=
  (∀ a x, ((![v548] : Fin 1 → IVec S16 32) a x).toNat < S100000.size a)
instance k0_chk797.dec : ∀ (v548 : IVec S16 32), Decidable (k0_chk797 v548) := fun v548 => decidable_of_iff' _ (Iff.of_eq (k0_chk797.eq_1 v548))
theorem k0_idx797_inb : ∀ (v548 : IVec S16 32) (k0_hw797 : k0_chk797 v548), ∀ a x, ((![v548] : Fin 1 → IVec S16 32) a x).toNat < S100000.size a := fun v548 k0_hw797 => k0_hw797
def k0_off921 (k0_t75 : Fin k0_t75_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v550 : BitVec 32 := Scalar.addi v461 c192_i32_302
  let v551 : Index := Scalar.indexCast v550
  ![v551.toNat]

def k0_chk798 (v555 : IVec S16 32) : Prop :=
  (∀ a x, ((![v555] : Fin 1 → IVec S16 32) a x).toNat < S100000.size a)
instance k0_chk798.dec : ∀ (v555 : IVec S16 32), Decidable (k0_chk798 v555) := fun v555 => decidable_of_iff' _ (Iff.of_eq (k0_chk798.eq_1 v555))
theorem k0_idx798_inb : ∀ (v555 : IVec S16 32) (k0_hw798 : k0_chk798 v555), ∀ a x, ((![v555] : Fin 1 → IVec S16 32) a x).toNat < S100000.size a := fun v555 k0_hw798 => k0_hw798
def k0_off922 (k0_t75 : Fin k0_t75_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v557 : BitVec 32 := Scalar.addi v461 c208_i32_303
  let v558 : Index := Scalar.indexCast v557
  ![v558.toNat]

def k0_chk799 (v562 : IVec S16 32) : Prop :=
  (∀ a x, ((![v562] : Fin 1 → IVec S16 32) a x).toNat < S100000.size a)
instance k0_chk799.dec : ∀ (v562 : IVec S16 32), Decidable (k0_chk799 v562) := fun v562 => decidable_of_iff' _ (Iff.of_eq (k0_chk799.eq_1 v562))
theorem k0_idx799_inb : ∀ (v562 : IVec S16 32) (k0_hw799 : k0_chk799 v562), ∀ a x, ((![v562] : Fin 1 → IVec S16 32) a x).toNat < S100000.size a := fun v562 k0_hw799 => k0_hw799
def k0_off923 (k0_t75 : Fin k0_t75_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let v564 : BitVec 32 := Scalar.addi v461 c224_i32_304
  let v565 : Index := Scalar.indexCast v564
  ![v565.toNat]

def k0_chk800 (v569 : IVec S16 32) : Prop :=
  (∀ a x, ((![v569] : Fin 1 → IVec S16 32) a x).toNat < S100000.size a)
instance k0_chk800.dec : ∀ (v569 : IVec S16 32), Decidable (k0_chk800 v569) := fun v569 => decidable_of_iff' _ (Iff.of_eq (k0_chk800.eq_1 v569))
theorem k0_idx800_inb : ∀ (v569 : IVec S16 32) (k0_hw800 : k0_chk800 v569), ∀ a x, ((![v569] : Fin 1 → IVec S16 32) a x).toNat < S100000.size a := fun v569 k0_hw800 => k0_hw800
def k0_off924 (k0_t75 : Fin k0_t75_loop.trips) : Fin 1 → Nat :=
  let c0_i32_281 : BitVec 32 := 0#32
  let c1_i32_283 : BitVec 32 := 1#32
  let arg36 : BitVec 32 := Scf.iv c0_i32_281 c1_i32_283 k0_t75
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off925 (i : grid0.Coords) (k0_t73 : Fin (k0_t73_loop i).trips) : Fin 2 → Nat :=
  let c432_i32_285 : BitVec 32 := 432#32
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c1_i32_142 : BitVec 32 := 1#32
  let arg34 : BitVec 32 := Scf.iv v233 c1_i32_142 k0_t73
  let v460 : BitVec 32 := Scalar.addi c432_i32_285 arg34
  let c8192_i32_r100 : BitVec 32 := 8192#32
  ![v460.toNat, 8192]
@[reducible] def k0_t76_loop (i : grid0.Coords) : Scf.Loop 32 :=
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c36_i32_138 : BitVec 32 := 36#32
  let c0_i32_137 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c432_i32_136 : BitVec 32 := 432#32
  let v234 : BitVec 32 := Scalar.subi v38 c432_i32_136
  let v235 : BitVec 32 := Scalar.maxsi c0_i32_137 v234
  let v236 : BitVec 32 := Scalar.minsi c36_i32_138 v235
  let v240 : BitVec 32 := Scalar.subi v236 v233
  let c1_i32_141 : BitVec 32 := 1#32
  let v242 : BitVec 32 := Scalar.divsi v240 c1_i32_141
  let v243 : BitVec 32 := Scalar.muli v242 c1_i32_141
  let v244 : BitVec 32 := Scalar.addi v233 v243
  let v241 : BitVec 32 := Scalar.addi v233 v240
  let c1_i32_143 : BitVec 32 := 1#32
  ⟨v244, v241, c1_i32_143⟩
def k0_off926 (i : grid0.Coords) (k0_t76 : Fin (k0_t76_loop i).trips) : Fin 2 → Nat :=
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c36_i32_138 : BitVec 32 := 36#32
  let c0_i32_137 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c432_i32_136 : BitVec 32 := 432#32
  let v234 : BitVec 32 := Scalar.subi v38 c432_i32_136
  let v235 : BitVec 32 := Scalar.maxsi c0_i32_137 v234
  let v236 : BitVec 32 := Scalar.minsi c36_i32_138 v235
  let v240 : BitVec 32 := Scalar.subi v236 v233
  let c1_i32_141 : BitVec 32 := 1#32
  let v242 : BitVec 32 := Scalar.divsi v240 c1_i32_141
  let v243 : BitVec 32 := Scalar.muli v242 c1_i32_141
  let v244 : BitVec 32 := Scalar.addi v233 v243
  let c1_i32_143 : BitVec 32 := 1#32
  let arg34 : BitVec 32 := Scf.iv v244 c1_i32_143 k0_t76
  let c0_i32_287_r101 : BitVec 32 := 0#32
  ![arg34.toNat, 0]
@[reducible] def k0_t77_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off927 (k0_t77 : Fin k0_t77_loop.trips) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk801 (v464 : IVec S16 32) : Prop :=
  (∀ a x, ((![v464] : Fin 1 → IVec S16 32) a x).toNat < S100000.size a)
instance k0_chk801.dec : ∀ (v464 : IVec S16 32), Decidable (k0_chk801 v464) := fun v464 => decidable_of_iff' _ (Iff.of_eq (k0_chk801.eq_1 v464))
theorem k0_idx801_inb : ∀ (v464 : IVec S16 32) (k0_hw801 : k0_chk801 v464), ∀ a x, ((![v464] : Fin 1 → IVec S16 32) a x).toNat < S100000.size a := fun v464 k0_hw801 => k0_hw801
def k0_off928 (k0_t77 : Fin k0_t77_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v466 : BitVec 32 := Scalar.addi v461 c0_i32_288
  let v467 : Index := Scalar.indexCast v466
  ![v467.toNat]

def k0_chk802 (v471 : IVec S16 32) : Prop :=
  (∀ a x, ((![v471] : Fin 1 → IVec S16 32) a x).toNat < S100000.size a)
instance k0_chk802.dec : ∀ (v471 : IVec S16 32), Decidable (k0_chk802 v471) := fun v471 => decidable_of_iff' _ (Iff.of_eq (k0_chk802.eq_1 v471))
theorem k0_idx802_inb : ∀ (v471 : IVec S16 32) (k0_hw802 : k0_chk802 v471), ∀ a x, ((![v471] : Fin 1 → IVec S16 32) a x).toNat < S100000.size a := fun v471 k0_hw802 => k0_hw802
def k0_off929 (k0_t77 : Fin k0_t77_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v473 : BitVec 32 := Scalar.addi v461 c16_i32_289
  let v474 : Index := Scalar.indexCast v473
  ![v474.toNat]

def k0_chk803 (v478 : IVec S16 32) : Prop :=
  (∀ a x, ((![v478] : Fin 1 → IVec S16 32) a x).toNat < S100000.size a)
instance k0_chk803.dec : ∀ (v478 : IVec S16 32), Decidable (k0_chk803 v478) := fun v478 => decidable_of_iff' _ (Iff.of_eq (k0_chk803.eq_1 v478))
theorem k0_idx803_inb : ∀ (v478 : IVec S16 32) (k0_hw803 : k0_chk803 v478), ∀ a x, ((![v478] : Fin 1 → IVec S16 32) a x).toNat < S100000.size a := fun v478 k0_hw803 => k0_hw803
def k0_off930 (k0_t77 : Fin k0_t77_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v480 : BitVec 32 := Scalar.addi v461 c32_i32_291
  let v481 : Index := Scalar.indexCast v480
  ![v481.toNat]

def k0_chk804 (v485 : IVec S16 32) : Prop :=
  (∀ a x, ((![v485] : Fin 1 → IVec S16 32) a x).toNat < S100000.size a)
instance k0_chk804.dec : ∀ (v485 : IVec S16 32), Decidable (k0_chk804 v485) := fun v485 => decidable_of_iff' _ (Iff.of_eq (k0_chk804.eq_1 v485))
theorem k0_idx804_inb : ∀ (v485 : IVec S16 32) (k0_hw804 : k0_chk804 v485), ∀ a x, ((![v485] : Fin 1 → IVec S16 32) a x).toNat < S100000.size a := fun v485 k0_hw804 => k0_hw804
def k0_off931 (k0_t77 : Fin k0_t77_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v487 : BitVec 32 := Scalar.addi v461 c48_i32_292
  let v488 : Index := Scalar.indexCast v487
  ![v488.toNat]

def k0_chk805 (v492 : IVec S16 32) : Prop :=
  (∀ a x, ((![v492] : Fin 1 → IVec S16 32) a x).toNat < S100000.size a)
instance k0_chk805.dec : ∀ (v492 : IVec S16 32), Decidable (k0_chk805 v492) := fun v492 => decidable_of_iff' _ (Iff.of_eq (k0_chk805.eq_1 v492))
theorem k0_idx805_inb : ∀ (v492 : IVec S16 32) (k0_hw805 : k0_chk805 v492), ∀ a x, ((![v492] : Fin 1 → IVec S16 32) a x).toNat < S100000.size a := fun v492 k0_hw805 => k0_hw805
def k0_off932 (k0_t77 : Fin k0_t77_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v494 : BitVec 32 := Scalar.addi v461 c64_i32_293
  let v495 : Index := Scalar.indexCast v494
  ![v495.toNat]

def k0_chk806 (v499 : IVec S16 32) : Prop :=
  (∀ a x, ((![v499] : Fin 1 → IVec S16 32) a x).toNat < S100000.size a)
instance k0_chk806.dec : ∀ (v499 : IVec S16 32), Decidable (k0_chk806 v499) := fun v499 => decidable_of_iff' _ (Iff.of_eq (k0_chk806.eq_1 v499))
theorem k0_idx806_inb : ∀ (v499 : IVec S16 32) (k0_hw806 : k0_chk806 v499), ∀ a x, ((![v499] : Fin 1 → IVec S16 32) a x).toNat < S100000.size a := fun v499 k0_hw806 => k0_hw806
def k0_off933 (k0_t77 : Fin k0_t77_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v501 : BitVec 32 := Scalar.addi v461 c80_i32_294
  let v502 : Index := Scalar.indexCast v501
  ![v502.toNat]

def k0_chk807 (v506 : IVec S16 32) : Prop :=
  (∀ a x, ((![v506] : Fin 1 → IVec S16 32) a x).toNat < S100000.size a)
instance k0_chk807.dec : ∀ (v506 : IVec S16 32), Decidable (k0_chk807 v506) := fun v506 => decidable_of_iff' _ (Iff.of_eq (k0_chk807.eq_1 v506))
theorem k0_idx807_inb : ∀ (v506 : IVec S16 32) (k0_hw807 : k0_chk807 v506), ∀ a x, ((![v506] : Fin 1 → IVec S16 32) a x).toNat < S100000.size a := fun v506 k0_hw807 => k0_hw807
def k0_off934 (k0_t77 : Fin k0_t77_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v508 : BitVec 32 := Scalar.addi v461 c96_i32_295
  let v509 : Index := Scalar.indexCast v508
  ![v509.toNat]

def k0_chk808 (v513 : IVec S16 32) : Prop :=
  (∀ a x, ((![v513] : Fin 1 → IVec S16 32) a x).toNat < S100000.size a)
instance k0_chk808.dec : ∀ (v513 : IVec S16 32), Decidable (k0_chk808 v513) := fun v513 => decidable_of_iff' _ (Iff.of_eq (k0_chk808.eq_1 v513))
theorem k0_idx808_inb : ∀ (v513 : IVec S16 32) (k0_hw808 : k0_chk808 v513), ∀ a x, ((![v513] : Fin 1 → IVec S16 32) a x).toNat < S100000.size a := fun v513 k0_hw808 => k0_hw808
def k0_off935 (k0_t77 : Fin k0_t77_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v515 : BitVec 32 := Scalar.addi v461 c112_i32_296
  let v516 : Index := Scalar.indexCast v515
  ![v516.toNat]

def k0_chk809 (v520 : IVec S16 32) : Prop :=
  (∀ a x, ((![v520] : Fin 1 → IVec S16 32) a x).toNat < S100000.size a)
instance k0_chk809.dec : ∀ (v520 : IVec S16 32), Decidable (k0_chk809 v520) := fun v520 => decidable_of_iff' _ (Iff.of_eq (k0_chk809.eq_1 v520))
theorem k0_idx809_inb : ∀ (v520 : IVec S16 32) (k0_hw809 : k0_chk809 v520), ∀ a x, ((![v520] : Fin 1 → IVec S16 32) a x).toNat < S100000.size a := fun v520 k0_hw809 => k0_hw809
def k0_off936 (k0_t77 : Fin k0_t77_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v522 : BitVec 32 := Scalar.addi v461 c128_i32_297
  let v523 : Index := Scalar.indexCast v522
  ![v523.toNat]

def k0_chk810 (v527 : IVec S16 32) : Prop :=
  (∀ a x, ((![v527] : Fin 1 → IVec S16 32) a x).toNat < S100000.size a)
instance k0_chk810.dec : ∀ (v527 : IVec S16 32), Decidable (k0_chk810 v527) := fun v527 => decidable_of_iff' _ (Iff.of_eq (k0_chk810.eq_1 v527))
theorem k0_idx810_inb : ∀ (v527 : IVec S16 32) (k0_hw810 : k0_chk810 v527), ∀ a x, ((![v527] : Fin 1 → IVec S16 32) a x).toNat < S100000.size a := fun v527 k0_hw810 => k0_hw810
def k0_off937 (k0_t77 : Fin k0_t77_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v529 : BitVec 32 := Scalar.addi v461 c144_i32_299
  let v530 : Index := Scalar.indexCast v529
  ![v530.toNat]

def k0_chk811 (v534 : IVec S16 32) : Prop :=
  (∀ a x, ((![v534] : Fin 1 → IVec S16 32) a x).toNat < S100000.size a)
instance k0_chk811.dec : ∀ (v534 : IVec S16 32), Decidable (k0_chk811 v534) := fun v534 => decidable_of_iff' _ (Iff.of_eq (k0_chk811.eq_1 v534))
theorem k0_idx811_inb : ∀ (v534 : IVec S16 32) (k0_hw811 : k0_chk811 v534), ∀ a x, ((![v534] : Fin 1 → IVec S16 32) a x).toNat < S100000.size a := fun v534 k0_hw811 => k0_hw811
def k0_off938 (k0_t77 : Fin k0_t77_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v536 : BitVec 32 := Scalar.addi v461 c160_i32_300
  let v537 : Index := Scalar.indexCast v536
  ![v537.toNat]

def k0_chk812 (v541 : IVec S16 32) : Prop :=
  (∀ a x, ((![v541] : Fin 1 → IVec S16 32) a x).toNat < S100000.size a)
instance k0_chk812.dec : ∀ (v541 : IVec S16 32), Decidable (k0_chk812 v541) := fun v541 => decidable_of_iff' _ (Iff.of_eq (k0_chk812.eq_1 v541))
theorem k0_idx812_inb : ∀ (v541 : IVec S16 32) (k0_hw812 : k0_chk812 v541), ∀ a x, ((![v541] : Fin 1 → IVec S16 32) a x).toNat < S100000.size a := fun v541 k0_hw812 => k0_hw812
def k0_off939 (k0_t77 : Fin k0_t77_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v543 : BitVec 32 := Scalar.addi v461 c176_i32_301
  let v544 : Index := Scalar.indexCast v543
  ![v544.toNat]

def k0_chk813 (v548 : IVec S16 32) : Prop :=
  (∀ a x, ((![v548] : Fin 1 → IVec S16 32) a x).toNat < S100000.size a)
instance k0_chk813.dec : ∀ (v548 : IVec S16 32), Decidable (k0_chk813 v548) := fun v548 => decidable_of_iff' _ (Iff.of_eq (k0_chk813.eq_1 v548))
theorem k0_idx813_inb : ∀ (v548 : IVec S16 32) (k0_hw813 : k0_chk813 v548), ∀ a x, ((![v548] : Fin 1 → IVec S16 32) a x).toNat < S100000.size a := fun v548 k0_hw813 => k0_hw813
def k0_off940 (k0_t77 : Fin k0_t77_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v550 : BitVec 32 := Scalar.addi v461 c192_i32_302
  let v551 : Index := Scalar.indexCast v550
  ![v551.toNat]

def k0_chk814 (v555 : IVec S16 32) : Prop :=
  (∀ a x, ((![v555] : Fin 1 → IVec S16 32) a x).toNat < S100000.size a)
instance k0_chk814.dec : ∀ (v555 : IVec S16 32), Decidable (k0_chk814 v555) := fun v555 => decidable_of_iff' _ (Iff.of_eq (k0_chk814.eq_1 v555))
theorem k0_idx814_inb : ∀ (v555 : IVec S16 32) (k0_hw814 : k0_chk814 v555), ∀ a x, ((![v555] : Fin 1 → IVec S16 32) a x).toNat < S100000.size a := fun v555 k0_hw814 => k0_hw814
def k0_off941 (k0_t77 : Fin k0_t77_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v557 : BitVec 32 := Scalar.addi v461 c208_i32_303
  let v558 : Index := Scalar.indexCast v557
  ![v558.toNat]

def k0_chk815 (v562 : IVec S16 32) : Prop :=
  (∀ a x, ((![v562] : Fin 1 → IVec S16 32) a x).toNat < S100000.size a)
instance k0_chk815.dec : ∀ (v562 : IVec S16 32), Decidable (k0_chk815 v562) := fun v562 => decidable_of_iff' _ (Iff.of_eq (k0_chk815.eq_1 v562))
theorem k0_idx815_inb : ∀ (v562 : IVec S16 32) (k0_hw815 : k0_chk815 v562), ∀ a x, ((![v562] : Fin 1 → IVec S16 32) a x).toNat < S100000.size a := fun v562 k0_hw815 => k0_hw815
def k0_off942 (k0_t77 : Fin k0_t77_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let v564 : BitVec 32 := Scalar.addi v461 c224_i32_304
  let v565 : Index := Scalar.indexCast v564
  ![v565.toNat]

def k0_chk816 (v569 : IVec S16 32) : Prop :=
  (∀ a x, ((![v569] : Fin 1 → IVec S16 32) a x).toNat < S100000.size a)
instance k0_chk816.dec : ∀ (v569 : IVec S16 32), Decidable (k0_chk816 v569) := fun v569 => decidable_of_iff' _ (Iff.of_eq (k0_chk816.eq_1 v569))
theorem k0_idx816_inb : ∀ (v569 : IVec S16 32) (k0_hw816 : k0_chk816 v569), ∀ a x, ((![v569] : Fin 1 → IVec S16 32) a x).toNat < S100000.size a := fun v569 k0_hw816 => k0_hw816
def k0_off943 (k0_t77 : Fin k0_t77_loop.trips) : Fin 1 → Nat :=
  let c0_i32_275 : BitVec 32 := 0#32
  let c1_i32_277 : BitVec 32 := 1#32
  let arg36 : BitVec 32 := Scf.iv c0_i32_275 c1_i32_277 k0_t77
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off944 (i : grid0.Coords) (k0_t76 : Fin (k0_t76_loop i).trips) : Fin 2 → Nat :=
  let c432_i32_279 : BitVec 32 := 432#32
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c36_i32_138 : BitVec 32 := 36#32
  let c0_i32_137 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c432_i32_136 : BitVec 32 := 432#32
  let v234 : BitVec 32 := Scalar.subi v38 c432_i32_136
  let v235 : BitVec 32 := Scalar.maxsi c0_i32_137 v234
  let v236 : BitVec 32 := Scalar.minsi c36_i32_138 v235
  let v240 : BitVec 32 := Scalar.subi v236 v233
  let c1_i32_141 : BitVec 32 := 1#32
  let v242 : BitVec 32 := Scalar.divsi v240 c1_i32_141
  let v243 : BitVec 32 := Scalar.muli v242 c1_i32_141
  let v244 : BitVec 32 := Scalar.addi v233 v243
  let c1_i32_143 : BitVec 32 := 1#32
  let arg34 : BitVec 32 := Scf.iv v244 c1_i32_143 k0_t76
  let v457 : BitVec 32 := Scalar.addi c432_i32_279 arg34
  let c0_i32_287_r102 : BitVec 32 := 0#32
  ![v457.toNat, 0]
@[reducible] def k0_t78_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off945 (k0_t78 : Fin k0_t78_loop.trips) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk817 (v464 : IVec S16 32) : Prop :=
  (∀ a x, ((![v464] : Fin 1 → IVec S16 32) a x).toNat < S100000.size a)
instance k0_chk817.dec : ∀ (v464 : IVec S16 32), Decidable (k0_chk817 v464) := fun v464 => decidable_of_iff' _ (Iff.of_eq (k0_chk817.eq_1 v464))
theorem k0_idx817_inb : ∀ (v464 : IVec S16 32) (k0_hw817 : k0_chk817 v464), ∀ a x, ((![v464] : Fin 1 → IVec S16 32) a x).toNat < S100000.size a := fun v464 k0_hw817 => k0_hw817
def k0_off946 (k0_t78 : Fin k0_t78_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v466 : BitVec 32 := Scalar.addi v461 c0_i32_288
  let v467 : Index := Scalar.indexCast v466
  ![v467.toNat]

def k0_chk818 (v471 : IVec S16 32) : Prop :=
  (∀ a x, ((![v471] : Fin 1 → IVec S16 32) a x).toNat < S100000.size a)
instance k0_chk818.dec : ∀ (v471 : IVec S16 32), Decidable (k0_chk818 v471) := fun v471 => decidable_of_iff' _ (Iff.of_eq (k0_chk818.eq_1 v471))
theorem k0_idx818_inb : ∀ (v471 : IVec S16 32) (k0_hw818 : k0_chk818 v471), ∀ a x, ((![v471] : Fin 1 → IVec S16 32) a x).toNat < S100000.size a := fun v471 k0_hw818 => k0_hw818
def k0_off947 (k0_t78 : Fin k0_t78_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v473 : BitVec 32 := Scalar.addi v461 c16_i32_289
  let v474 : Index := Scalar.indexCast v473
  ![v474.toNat]

def k0_chk819 (v478 : IVec S16 32) : Prop :=
  (∀ a x, ((![v478] : Fin 1 → IVec S16 32) a x).toNat < S100000.size a)
instance k0_chk819.dec : ∀ (v478 : IVec S16 32), Decidable (k0_chk819 v478) := fun v478 => decidable_of_iff' _ (Iff.of_eq (k0_chk819.eq_1 v478))
theorem k0_idx819_inb : ∀ (v478 : IVec S16 32) (k0_hw819 : k0_chk819 v478), ∀ a x, ((![v478] : Fin 1 → IVec S16 32) a x).toNat < S100000.size a := fun v478 k0_hw819 => k0_hw819
def k0_off948 (k0_t78 : Fin k0_t78_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v480 : BitVec 32 := Scalar.addi v461 c32_i32_291
  let v481 : Index := Scalar.indexCast v480
  ![v481.toNat]

def k0_chk820 (v485 : IVec S16 32) : Prop :=
  (∀ a x, ((![v485] : Fin 1 → IVec S16 32) a x).toNat < S100000.size a)
instance k0_chk820.dec : ∀ (v485 : IVec S16 32), Decidable (k0_chk820 v485) := fun v485 => decidable_of_iff' _ (Iff.of_eq (k0_chk820.eq_1 v485))
theorem k0_idx820_inb : ∀ (v485 : IVec S16 32) (k0_hw820 : k0_chk820 v485), ∀ a x, ((![v485] : Fin 1 → IVec S16 32) a x).toNat < S100000.size a := fun v485 k0_hw820 => k0_hw820
def k0_off949 (k0_t78 : Fin k0_t78_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v487 : BitVec 32 := Scalar.addi v461 c48_i32_292
  let v488 : Index := Scalar.indexCast v487
  ![v488.toNat]

def k0_chk821 (v492 : IVec S16 32) : Prop :=
  (∀ a x, ((![v492] : Fin 1 → IVec S16 32) a x).toNat < S100000.size a)
instance k0_chk821.dec : ∀ (v492 : IVec S16 32), Decidable (k0_chk821 v492) := fun v492 => decidable_of_iff' _ (Iff.of_eq (k0_chk821.eq_1 v492))
theorem k0_idx821_inb : ∀ (v492 : IVec S16 32) (k0_hw821 : k0_chk821 v492), ∀ a x, ((![v492] : Fin 1 → IVec S16 32) a x).toNat < S100000.size a := fun v492 k0_hw821 => k0_hw821
def k0_off950 (k0_t78 : Fin k0_t78_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v494 : BitVec 32 := Scalar.addi v461 c64_i32_293
  let v495 : Index := Scalar.indexCast v494
  ![v495.toNat]

def k0_chk822 (v499 : IVec S16 32) : Prop :=
  (∀ a x, ((![v499] : Fin 1 → IVec S16 32) a x).toNat < S100000.size a)
instance k0_chk822.dec : ∀ (v499 : IVec S16 32), Decidable (k0_chk822 v499) := fun v499 => decidable_of_iff' _ (Iff.of_eq (k0_chk822.eq_1 v499))
theorem k0_idx822_inb : ∀ (v499 : IVec S16 32) (k0_hw822 : k0_chk822 v499), ∀ a x, ((![v499] : Fin 1 → IVec S16 32) a x).toNat < S100000.size a := fun v499 k0_hw822 => k0_hw822
def k0_off951 (k0_t78 : Fin k0_t78_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v501 : BitVec 32 := Scalar.addi v461 c80_i32_294
  let v502 : Index := Scalar.indexCast v501
  ![v502.toNat]

def k0_chk823 (v506 : IVec S16 32) : Prop :=
  (∀ a x, ((![v506] : Fin 1 → IVec S16 32) a x).toNat < S100000.size a)
instance k0_chk823.dec : ∀ (v506 : IVec S16 32), Decidable (k0_chk823 v506) := fun v506 => decidable_of_iff' _ (Iff.of_eq (k0_chk823.eq_1 v506))
theorem k0_idx823_inb : ∀ (v506 : IVec S16 32) (k0_hw823 : k0_chk823 v506), ∀ a x, ((![v506] : Fin 1 → IVec S16 32) a x).toNat < S100000.size a := fun v506 k0_hw823 => k0_hw823
def k0_off952 (k0_t78 : Fin k0_t78_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v508 : BitVec 32 := Scalar.addi v461 c96_i32_295
  let v509 : Index := Scalar.indexCast v508
  ![v509.toNat]

def k0_chk824 (v513 : IVec S16 32) : Prop :=
  (∀ a x, ((![v513] : Fin 1 → IVec S16 32) a x).toNat < S100000.size a)
instance k0_chk824.dec : ∀ (v513 : IVec S16 32), Decidable (k0_chk824 v513) := fun v513 => decidable_of_iff' _ (Iff.of_eq (k0_chk824.eq_1 v513))
theorem k0_idx824_inb : ∀ (v513 : IVec S16 32) (k0_hw824 : k0_chk824 v513), ∀ a x, ((![v513] : Fin 1 → IVec S16 32) a x).toNat < S100000.size a := fun v513 k0_hw824 => k0_hw824
def k0_off953 (k0_t78 : Fin k0_t78_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v515 : BitVec 32 := Scalar.addi v461 c112_i32_296
  let v516 : Index := Scalar.indexCast v515
  ![v516.toNat]

def k0_chk825 (v520 : IVec S16 32) : Prop :=
  (∀ a x, ((![v520] : Fin 1 → IVec S16 32) a x).toNat < S100000.size a)
instance k0_chk825.dec : ∀ (v520 : IVec S16 32), Decidable (k0_chk825 v520) := fun v520 => decidable_of_iff' _ (Iff.of_eq (k0_chk825.eq_1 v520))
theorem k0_idx825_inb : ∀ (v520 : IVec S16 32) (k0_hw825 : k0_chk825 v520), ∀ a x, ((![v520] : Fin 1 → IVec S16 32) a x).toNat < S100000.size a := fun v520 k0_hw825 => k0_hw825
def k0_off954 (k0_t78 : Fin k0_t78_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v522 : BitVec 32 := Scalar.addi v461 c128_i32_297
  let v523 : Index := Scalar.indexCast v522
  ![v523.toNat]

def k0_chk826 (v527 : IVec S16 32) : Prop :=
  (∀ a x, ((![v527] : Fin 1 → IVec S16 32) a x).toNat < S100000.size a)
instance k0_chk826.dec : ∀ (v527 : IVec S16 32), Decidable (k0_chk826 v527) := fun v527 => decidable_of_iff' _ (Iff.of_eq (k0_chk826.eq_1 v527))
theorem k0_idx826_inb : ∀ (v527 : IVec S16 32) (k0_hw826 : k0_chk826 v527), ∀ a x, ((![v527] : Fin 1 → IVec S16 32) a x).toNat < S100000.size a := fun v527 k0_hw826 => k0_hw826
def k0_off955 (k0_t78 : Fin k0_t78_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v529 : BitVec 32 := Scalar.addi v461 c144_i32_299
  let v530 : Index := Scalar.indexCast v529
  ![v530.toNat]

def k0_chk827 (v534 : IVec S16 32) : Prop :=
  (∀ a x, ((![v534] : Fin 1 → IVec S16 32) a x).toNat < S100000.size a)
instance k0_chk827.dec : ∀ (v534 : IVec S16 32), Decidable (k0_chk827 v534) := fun v534 => decidable_of_iff' _ (Iff.of_eq (k0_chk827.eq_1 v534))
theorem k0_idx827_inb : ∀ (v534 : IVec S16 32) (k0_hw827 : k0_chk827 v534), ∀ a x, ((![v534] : Fin 1 → IVec S16 32) a x).toNat < S100000.size a := fun v534 k0_hw827 => k0_hw827
def k0_off956 (k0_t78 : Fin k0_t78_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v536 : BitVec 32 := Scalar.addi v461 c160_i32_300
  let v537 : Index := Scalar.indexCast v536
  ![v537.toNat]

def k0_chk828 (v541 : IVec S16 32) : Prop :=
  (∀ a x, ((![v541] : Fin 1 → IVec S16 32) a x).toNat < S100000.size a)
instance k0_chk828.dec : ∀ (v541 : IVec S16 32), Decidable (k0_chk828 v541) := fun v541 => decidable_of_iff' _ (Iff.of_eq (k0_chk828.eq_1 v541))
theorem k0_idx828_inb : ∀ (v541 : IVec S16 32) (k0_hw828 : k0_chk828 v541), ∀ a x, ((![v541] : Fin 1 → IVec S16 32) a x).toNat < S100000.size a := fun v541 k0_hw828 => k0_hw828
def k0_off957 (k0_t78 : Fin k0_t78_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v543 : BitVec 32 := Scalar.addi v461 c176_i32_301
  let v544 : Index := Scalar.indexCast v543
  ![v544.toNat]

def k0_chk829 (v548 : IVec S16 32) : Prop :=
  (∀ a x, ((![v548] : Fin 1 → IVec S16 32) a x).toNat < S100000.size a)
instance k0_chk829.dec : ∀ (v548 : IVec S16 32), Decidable (k0_chk829 v548) := fun v548 => decidable_of_iff' _ (Iff.of_eq (k0_chk829.eq_1 v548))
theorem k0_idx829_inb : ∀ (v548 : IVec S16 32) (k0_hw829 : k0_chk829 v548), ∀ a x, ((![v548] : Fin 1 → IVec S16 32) a x).toNat < S100000.size a := fun v548 k0_hw829 => k0_hw829
def k0_off958 (k0_t78 : Fin k0_t78_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v550 : BitVec 32 := Scalar.addi v461 c192_i32_302
  let v551 : Index := Scalar.indexCast v550
  ![v551.toNat]

def k0_chk830 (v555 : IVec S16 32) : Prop :=
  (∀ a x, ((![v555] : Fin 1 → IVec S16 32) a x).toNat < S100000.size a)
instance k0_chk830.dec : ∀ (v555 : IVec S16 32), Decidable (k0_chk830 v555) := fun v555 => decidable_of_iff' _ (Iff.of_eq (k0_chk830.eq_1 v555))
theorem k0_idx830_inb : ∀ (v555 : IVec S16 32) (k0_hw830 : k0_chk830 v555), ∀ a x, ((![v555] : Fin 1 → IVec S16 32) a x).toNat < S100000.size a := fun v555 k0_hw830 => k0_hw830
def k0_off959 (k0_t78 : Fin k0_t78_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v557 : BitVec 32 := Scalar.addi v461 c208_i32_303
  let v558 : Index := Scalar.indexCast v557
  ![v558.toNat]

def k0_chk831 (v562 : IVec S16 32) : Prop :=
  (∀ a x, ((![v562] : Fin 1 → IVec S16 32) a x).toNat < S100000.size a)
instance k0_chk831.dec : ∀ (v562 : IVec S16 32), Decidable (k0_chk831 v562) := fun v562 => decidable_of_iff' _ (Iff.of_eq (k0_chk831.eq_1 v562))
theorem k0_idx831_inb : ∀ (v562 : IVec S16 32) (k0_hw831 : k0_chk831 v562), ∀ a x, ((![v562] : Fin 1 → IVec S16 32) a x).toNat < S100000.size a := fun v562 k0_hw831 => k0_hw831
def k0_off960 (k0_t78 : Fin k0_t78_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let v564 : BitVec 32 := Scalar.addi v461 c224_i32_304
  let v565 : Index := Scalar.indexCast v564
  ![v565.toNat]

def k0_chk832 (v569 : IVec S16 32) : Prop :=
  (∀ a x, ((![v569] : Fin 1 → IVec S16 32) a x).toNat < S100000.size a)
instance k0_chk832.dec : ∀ (v569 : IVec S16 32), Decidable (k0_chk832 v569) := fun v569 => decidable_of_iff' _ (Iff.of_eq (k0_chk832.eq_1 v569))
theorem k0_idx832_inb : ∀ (v569 : IVec S16 32) (k0_hw832 : k0_chk832 v569), ∀ a x, ((![v569] : Fin 1 → IVec S16 32) a x).toNat < S100000.size a := fun v569 k0_hw832 => k0_hw832
def k0_off961 (k0_t78 : Fin k0_t78_loop.trips) : Fin 1 → Nat :=
  let c0_i32_281 : BitVec 32 := 0#32
  let c1_i32_283 : BitVec 32 := 1#32
  let arg36 : BitVec 32 := Scf.iv c0_i32_281 c1_i32_283 k0_t78
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off962 (i : grid0.Coords) (k0_t76 : Fin (k0_t76_loop i).trips) : Fin 2 → Nat :=
  let c432_i32_285 : BitVec 32 := 432#32
  let c36_i32_135 : BitVec 32 := 36#32
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c432_i32 : BitVec 32 := 432#32
  let v231 : BitVec 32 := Scalar.subi v19 c432_i32
  let v232 : BitVec 32 := Scalar.maxsi c0_i32_134 v231
  let v233 : BitVec 32 := Scalar.minsi c36_i32_135 v232
  let c36_i32_138 : BitVec 32 := 36#32
  let c0_i32_137 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c432_i32_136 : BitVec 32 := 432#32
  let v234 : BitVec 32 := Scalar.subi v38 c432_i32_136
  let v235 : BitVec 32 := Scalar.maxsi c0_i32_137 v234
  let v236 : BitVec 32 := Scalar.minsi c36_i32_138 v235
  let v240 : BitVec 32 := Scalar.subi v236 v233
  let c1_i32_141 : BitVec 32 := 1#32
  let v242 : BitVec 32 := Scalar.divsi v240 c1_i32_141
  let v243 : BitVec 32 := Scalar.muli v242 c1_i32_141
  let v244 : BitVec 32 := Scalar.addi v233 v243
  let c1_i32_143 : BitVec 32 := 1#32
  let arg34 : BitVec 32 := Scf.iv v244 c1_i32_143 k0_t76
  let v460 : BitVec 32 := Scalar.addi c432_i32_285 arg34
  let c8192_i32_r103 : BitVec 32 := 8192#32
  ![v460.toNat, 8192]
@[reducible] def k0_t79_loop (i : grid0.Coords) : Scf.Loop 32 :=
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c36_i32_148 : BitVec 32 := 36#32
  let c0_i32_147 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c468_i32_146 : BitVec 32 := 468#32
  let v250 : BitVec 32 := Scalar.subi v38 c468_i32_146
  let v251 : BitVec 32 := Scalar.maxsi c0_i32_147 v250
  let v252 : BitVec 32 := Scalar.minsi c36_i32_148 v251
  let v256 : BitVec 32 := Scalar.subi v252 v249
  let c1_i32_151 : BitVec 32 := 1#32
  let v258 : BitVec 32 := Scalar.divsi v256 c1_i32_151
  let v259 : BitVec 32 := Scalar.muli v258 c1_i32_151
  let v260 : BitVec 32 := Scalar.addi v249 v259
  let c1_i32_152 : BitVec 32 := 1#32
  ⟨v249, v260, c1_i32_152⟩
def k0_off963 (i : grid0.Coords) (k0_t79 : Fin (k0_t79_loop i).trips) : Fin 2 → Nat :=
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c1_i32_152 : BitVec 32 := 1#32
  let arg34 : BitVec 32 := Scf.iv v249 c1_i32_152 k0_t79
  let c0_i32_287_r106 : BitVec 32 := 0#32
  ![arg34.toNat, 0]
@[reducible] def k0_t80_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off964 (k0_t80 : Fin k0_t80_loop.trips) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk833 (v464 : IVec S16 32) : Prop :=
  (∀ a x, ((![v464] : Fin 1 → IVec S16 32) a x).toNat < S100000.size a)
instance k0_chk833.dec : ∀ (v464 : IVec S16 32), Decidable (k0_chk833 v464) := fun v464 => decidable_of_iff' _ (Iff.of_eq (k0_chk833.eq_1 v464))
theorem k0_idx833_inb : ∀ (v464 : IVec S16 32) (k0_hw833 : k0_chk833 v464), ∀ a x, ((![v464] : Fin 1 → IVec S16 32) a x).toNat < S100000.size a := fun v464 k0_hw833 => k0_hw833
def k0_off965 (k0_t80 : Fin k0_t80_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v466 : BitVec 32 := Scalar.addi v461 c0_i32_288
  let v467 : Index := Scalar.indexCast v466
  ![v467.toNat]

def k0_chk834 (v471 : IVec S16 32) : Prop :=
  (∀ a x, ((![v471] : Fin 1 → IVec S16 32) a x).toNat < S100000.size a)
instance k0_chk834.dec : ∀ (v471 : IVec S16 32), Decidable (k0_chk834 v471) := fun v471 => decidable_of_iff' _ (Iff.of_eq (k0_chk834.eq_1 v471))
theorem k0_idx834_inb : ∀ (v471 : IVec S16 32) (k0_hw834 : k0_chk834 v471), ∀ a x, ((![v471] : Fin 1 → IVec S16 32) a x).toNat < S100000.size a := fun v471 k0_hw834 => k0_hw834
def k0_off966 (k0_t80 : Fin k0_t80_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v473 : BitVec 32 := Scalar.addi v461 c16_i32_289
  let v474 : Index := Scalar.indexCast v473
  ![v474.toNat]

def k0_chk835 (v478 : IVec S16 32) : Prop :=
  (∀ a x, ((![v478] : Fin 1 → IVec S16 32) a x).toNat < S100000.size a)
instance k0_chk835.dec : ∀ (v478 : IVec S16 32), Decidable (k0_chk835 v478) := fun v478 => decidable_of_iff' _ (Iff.of_eq (k0_chk835.eq_1 v478))
theorem k0_idx835_inb : ∀ (v478 : IVec S16 32) (k0_hw835 : k0_chk835 v478), ∀ a x, ((![v478] : Fin 1 → IVec S16 32) a x).toNat < S100000.size a := fun v478 k0_hw835 => k0_hw835
def k0_off967 (k0_t80 : Fin k0_t80_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v480 : BitVec 32 := Scalar.addi v461 c32_i32_291
  let v481 : Index := Scalar.indexCast v480
  ![v481.toNat]

def k0_chk836 (v485 : IVec S16 32) : Prop :=
  (∀ a x, ((![v485] : Fin 1 → IVec S16 32) a x).toNat < S100000.size a)
instance k0_chk836.dec : ∀ (v485 : IVec S16 32), Decidable (k0_chk836 v485) := fun v485 => decidable_of_iff' _ (Iff.of_eq (k0_chk836.eq_1 v485))
theorem k0_idx836_inb : ∀ (v485 : IVec S16 32) (k0_hw836 : k0_chk836 v485), ∀ a x, ((![v485] : Fin 1 → IVec S16 32) a x).toNat < S100000.size a := fun v485 k0_hw836 => k0_hw836
def k0_off968 (k0_t80 : Fin k0_t80_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v487 : BitVec 32 := Scalar.addi v461 c48_i32_292
  let v488 : Index := Scalar.indexCast v487
  ![v488.toNat]

def k0_chk837 (v492 : IVec S16 32) : Prop :=
  (∀ a x, ((![v492] : Fin 1 → IVec S16 32) a x).toNat < S100000.size a)
instance k0_chk837.dec : ∀ (v492 : IVec S16 32), Decidable (k0_chk837 v492) := fun v492 => decidable_of_iff' _ (Iff.of_eq (k0_chk837.eq_1 v492))
theorem k0_idx837_inb : ∀ (v492 : IVec S16 32) (k0_hw837 : k0_chk837 v492), ∀ a x, ((![v492] : Fin 1 → IVec S16 32) a x).toNat < S100000.size a := fun v492 k0_hw837 => k0_hw837
def k0_off969 (k0_t80 : Fin k0_t80_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v494 : BitVec 32 := Scalar.addi v461 c64_i32_293
  let v495 : Index := Scalar.indexCast v494
  ![v495.toNat]

def k0_chk838 (v499 : IVec S16 32) : Prop :=
  (∀ a x, ((![v499] : Fin 1 → IVec S16 32) a x).toNat < S100000.size a)
instance k0_chk838.dec : ∀ (v499 : IVec S16 32), Decidable (k0_chk838 v499) := fun v499 => decidable_of_iff' _ (Iff.of_eq (k0_chk838.eq_1 v499))
theorem k0_idx838_inb : ∀ (v499 : IVec S16 32) (k0_hw838 : k0_chk838 v499), ∀ a x, ((![v499] : Fin 1 → IVec S16 32) a x).toNat < S100000.size a := fun v499 k0_hw838 => k0_hw838
def k0_off970 (k0_t80 : Fin k0_t80_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v501 : BitVec 32 := Scalar.addi v461 c80_i32_294
  let v502 : Index := Scalar.indexCast v501
  ![v502.toNat]

def k0_chk839 (v506 : IVec S16 32) : Prop :=
  (∀ a x, ((![v506] : Fin 1 → IVec S16 32) a x).toNat < S100000.size a)
instance k0_chk839.dec : ∀ (v506 : IVec S16 32), Decidable (k0_chk839 v506) := fun v506 => decidable_of_iff' _ (Iff.of_eq (k0_chk839.eq_1 v506))
theorem k0_idx839_inb : ∀ (v506 : IVec S16 32) (k0_hw839 : k0_chk839 v506), ∀ a x, ((![v506] : Fin 1 → IVec S16 32) a x).toNat < S100000.size a := fun v506 k0_hw839 => k0_hw839
def k0_off971 (k0_t80 : Fin k0_t80_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v508 : BitVec 32 := Scalar.addi v461 c96_i32_295
  let v509 : Index := Scalar.indexCast v508
  ![v509.toNat]

def k0_chk840 (v513 : IVec S16 32) : Prop :=
  (∀ a x, ((![v513] : Fin 1 → IVec S16 32) a x).toNat < S100000.size a)
instance k0_chk840.dec : ∀ (v513 : IVec S16 32), Decidable (k0_chk840 v513) := fun v513 => decidable_of_iff' _ (Iff.of_eq (k0_chk840.eq_1 v513))
theorem k0_idx840_inb : ∀ (v513 : IVec S16 32) (k0_hw840 : k0_chk840 v513), ∀ a x, ((![v513] : Fin 1 → IVec S16 32) a x).toNat < S100000.size a := fun v513 k0_hw840 => k0_hw840
def k0_off972 (k0_t80 : Fin k0_t80_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v515 : BitVec 32 := Scalar.addi v461 c112_i32_296
  let v516 : Index := Scalar.indexCast v515
  ![v516.toNat]

def k0_chk841 (v520 : IVec S16 32) : Prop :=
  (∀ a x, ((![v520] : Fin 1 → IVec S16 32) a x).toNat < S100000.size a)
instance k0_chk841.dec : ∀ (v520 : IVec S16 32), Decidable (k0_chk841 v520) := fun v520 => decidable_of_iff' _ (Iff.of_eq (k0_chk841.eq_1 v520))
theorem k0_idx841_inb : ∀ (v520 : IVec S16 32) (k0_hw841 : k0_chk841 v520), ∀ a x, ((![v520] : Fin 1 → IVec S16 32) a x).toNat < S100000.size a := fun v520 k0_hw841 => k0_hw841
def k0_off973 (k0_t80 : Fin k0_t80_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v522 : BitVec 32 := Scalar.addi v461 c128_i32_297
  let v523 : Index := Scalar.indexCast v522
  ![v523.toNat]

def k0_chk842 (v527 : IVec S16 32) : Prop :=
  (∀ a x, ((![v527] : Fin 1 → IVec S16 32) a x).toNat < S100000.size a)
instance k0_chk842.dec : ∀ (v527 : IVec S16 32), Decidable (k0_chk842 v527) := fun v527 => decidable_of_iff' _ (Iff.of_eq (k0_chk842.eq_1 v527))
theorem k0_idx842_inb : ∀ (v527 : IVec S16 32) (k0_hw842 : k0_chk842 v527), ∀ a x, ((![v527] : Fin 1 → IVec S16 32) a x).toNat < S100000.size a := fun v527 k0_hw842 => k0_hw842
def k0_off974 (k0_t80 : Fin k0_t80_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v529 : BitVec 32 := Scalar.addi v461 c144_i32_299
  let v530 : Index := Scalar.indexCast v529
  ![v530.toNat]

def k0_chk843 (v534 : IVec S16 32) : Prop :=
  (∀ a x, ((![v534] : Fin 1 → IVec S16 32) a x).toNat < S100000.size a)
instance k0_chk843.dec : ∀ (v534 : IVec S16 32), Decidable (k0_chk843 v534) := fun v534 => decidable_of_iff' _ (Iff.of_eq (k0_chk843.eq_1 v534))
theorem k0_idx843_inb : ∀ (v534 : IVec S16 32) (k0_hw843 : k0_chk843 v534), ∀ a x, ((![v534] : Fin 1 → IVec S16 32) a x).toNat < S100000.size a := fun v534 k0_hw843 => k0_hw843
def k0_off975 (k0_t80 : Fin k0_t80_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v536 : BitVec 32 := Scalar.addi v461 c160_i32_300
  let v537 : Index := Scalar.indexCast v536
  ![v537.toNat]

def k0_chk844 (v541 : IVec S16 32) : Prop :=
  (∀ a x, ((![v541] : Fin 1 → IVec S16 32) a x).toNat < S100000.size a)
instance k0_chk844.dec : ∀ (v541 : IVec S16 32), Decidable (k0_chk844 v541) := fun v541 => decidable_of_iff' _ (Iff.of_eq (k0_chk844.eq_1 v541))
theorem k0_idx844_inb : ∀ (v541 : IVec S16 32) (k0_hw844 : k0_chk844 v541), ∀ a x, ((![v541] : Fin 1 → IVec S16 32) a x).toNat < S100000.size a := fun v541 k0_hw844 => k0_hw844
def k0_off976 (k0_t80 : Fin k0_t80_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v543 : BitVec 32 := Scalar.addi v461 c176_i32_301
  let v544 : Index := Scalar.indexCast v543
  ![v544.toNat]

def k0_chk845 (v548 : IVec S16 32) : Prop :=
  (∀ a x, ((![v548] : Fin 1 → IVec S16 32) a x).toNat < S100000.size a)
instance k0_chk845.dec : ∀ (v548 : IVec S16 32), Decidable (k0_chk845 v548) := fun v548 => decidable_of_iff' _ (Iff.of_eq (k0_chk845.eq_1 v548))
theorem k0_idx845_inb : ∀ (v548 : IVec S16 32) (k0_hw845 : k0_chk845 v548), ∀ a x, ((![v548] : Fin 1 → IVec S16 32) a x).toNat < S100000.size a := fun v548 k0_hw845 => k0_hw845
def k0_off977 (k0_t80 : Fin k0_t80_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v550 : BitVec 32 := Scalar.addi v461 c192_i32_302
  let v551 : Index := Scalar.indexCast v550
  ![v551.toNat]

def k0_chk846 (v555 : IVec S16 32) : Prop :=
  (∀ a x, ((![v555] : Fin 1 → IVec S16 32) a x).toNat < S100000.size a)
instance k0_chk846.dec : ∀ (v555 : IVec S16 32), Decidable (k0_chk846 v555) := fun v555 => decidable_of_iff' _ (Iff.of_eq (k0_chk846.eq_1 v555))
theorem k0_idx846_inb : ∀ (v555 : IVec S16 32) (k0_hw846 : k0_chk846 v555), ∀ a x, ((![v555] : Fin 1 → IVec S16 32) a x).toNat < S100000.size a := fun v555 k0_hw846 => k0_hw846
def k0_off978 (k0_t80 : Fin k0_t80_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v557 : BitVec 32 := Scalar.addi v461 c208_i32_303
  let v558 : Index := Scalar.indexCast v557
  ![v558.toNat]

def k0_chk847 (v562 : IVec S16 32) : Prop :=
  (∀ a x, ((![v562] : Fin 1 → IVec S16 32) a x).toNat < S100000.size a)
instance k0_chk847.dec : ∀ (v562 : IVec S16 32), Decidable (k0_chk847 v562) := fun v562 => decidable_of_iff' _ (Iff.of_eq (k0_chk847.eq_1 v562))
theorem k0_idx847_inb : ∀ (v562 : IVec S16 32) (k0_hw847 : k0_chk847 v562), ∀ a x, ((![v562] : Fin 1 → IVec S16 32) a x).toNat < S100000.size a := fun v562 k0_hw847 => k0_hw847
def k0_off979 (k0_t80 : Fin k0_t80_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let v564 : BitVec 32 := Scalar.addi v461 c224_i32_304
  let v565 : Index := Scalar.indexCast v564
  ![v565.toNat]

def k0_chk848 (v569 : IVec S16 32) : Prop :=
  (∀ a x, ((![v569] : Fin 1 → IVec S16 32) a x).toNat < S100000.size a)
instance k0_chk848.dec : ∀ (v569 : IVec S16 32), Decidable (k0_chk848 v569) := fun v569 => decidable_of_iff' _ (Iff.of_eq (k0_chk848.eq_1 v569))
theorem k0_idx848_inb : ∀ (v569 : IVec S16 32) (k0_hw848 : k0_chk848 v569), ∀ a x, ((![v569] : Fin 1 → IVec S16 32) a x).toNat < S100000.size a := fun v569 k0_hw848 => k0_hw848
def k0_off980 (k0_t80 : Fin k0_t80_loop.trips) : Fin 1 → Nat :=
  let c0_i32_275 : BitVec 32 := 0#32
  let c1_i32_277 : BitVec 32 := 1#32
  let arg36 : BitVec 32 := Scf.iv c0_i32_275 c1_i32_277 k0_t80
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off981 (i : grid0.Coords) (k0_t79 : Fin (k0_t79_loop i).trips) : Fin 2 → Nat :=
  let c468_i32_279 : BitVec 32 := 468#32
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c1_i32_152 : BitVec 32 := 1#32
  let arg34 : BitVec 32 := Scf.iv v249 c1_i32_152 k0_t79
  let v457 : BitVec 32 := Scalar.addi c468_i32_279 arg34
  let c0_i32_287_r107 : BitVec 32 := 0#32
  ![v457.toNat, 0]
@[reducible] def k0_t81_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off982 (k0_t81 : Fin k0_t81_loop.trips) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk849 (v464 : IVec S16 32) : Prop :=
  (∀ a x, ((![v464] : Fin 1 → IVec S16 32) a x).toNat < S100000.size a)
instance k0_chk849.dec : ∀ (v464 : IVec S16 32), Decidable (k0_chk849 v464) := fun v464 => decidable_of_iff' _ (Iff.of_eq (k0_chk849.eq_1 v464))
theorem k0_idx849_inb : ∀ (v464 : IVec S16 32) (k0_hw849 : k0_chk849 v464), ∀ a x, ((![v464] : Fin 1 → IVec S16 32) a x).toNat < S100000.size a := fun v464 k0_hw849 => k0_hw849
def k0_off983 (k0_t81 : Fin k0_t81_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v466 : BitVec 32 := Scalar.addi v461 c0_i32_288
  let v467 : Index := Scalar.indexCast v466
  ![v467.toNat]

def k0_chk850 (v471 : IVec S16 32) : Prop :=
  (∀ a x, ((![v471] : Fin 1 → IVec S16 32) a x).toNat < S100000.size a)
instance k0_chk850.dec : ∀ (v471 : IVec S16 32), Decidable (k0_chk850 v471) := fun v471 => decidable_of_iff' _ (Iff.of_eq (k0_chk850.eq_1 v471))
theorem k0_idx850_inb : ∀ (v471 : IVec S16 32) (k0_hw850 : k0_chk850 v471), ∀ a x, ((![v471] : Fin 1 → IVec S16 32) a x).toNat < S100000.size a := fun v471 k0_hw850 => k0_hw850
def k0_off984 (k0_t81 : Fin k0_t81_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v473 : BitVec 32 := Scalar.addi v461 c16_i32_289
  let v474 : Index := Scalar.indexCast v473
  ![v474.toNat]

def k0_chk851 (v478 : IVec S16 32) : Prop :=
  (∀ a x, ((![v478] : Fin 1 → IVec S16 32) a x).toNat < S100000.size a)
instance k0_chk851.dec : ∀ (v478 : IVec S16 32), Decidable (k0_chk851 v478) := fun v478 => decidable_of_iff' _ (Iff.of_eq (k0_chk851.eq_1 v478))
theorem k0_idx851_inb : ∀ (v478 : IVec S16 32) (k0_hw851 : k0_chk851 v478), ∀ a x, ((![v478] : Fin 1 → IVec S16 32) a x).toNat < S100000.size a := fun v478 k0_hw851 => k0_hw851
def k0_off985 (k0_t81 : Fin k0_t81_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v480 : BitVec 32 := Scalar.addi v461 c32_i32_291
  let v481 : Index := Scalar.indexCast v480
  ![v481.toNat]

def k0_chk852 (v485 : IVec S16 32) : Prop :=
  (∀ a x, ((![v485] : Fin 1 → IVec S16 32) a x).toNat < S100000.size a)
instance k0_chk852.dec : ∀ (v485 : IVec S16 32), Decidable (k0_chk852 v485) := fun v485 => decidable_of_iff' _ (Iff.of_eq (k0_chk852.eq_1 v485))
theorem k0_idx852_inb : ∀ (v485 : IVec S16 32) (k0_hw852 : k0_chk852 v485), ∀ a x, ((![v485] : Fin 1 → IVec S16 32) a x).toNat < S100000.size a := fun v485 k0_hw852 => k0_hw852
def k0_off986 (k0_t81 : Fin k0_t81_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v487 : BitVec 32 := Scalar.addi v461 c48_i32_292
  let v488 : Index := Scalar.indexCast v487
  ![v488.toNat]

def k0_chk853 (v492 : IVec S16 32) : Prop :=
  (∀ a x, ((![v492] : Fin 1 → IVec S16 32) a x).toNat < S100000.size a)
instance k0_chk853.dec : ∀ (v492 : IVec S16 32), Decidable (k0_chk853 v492) := fun v492 => decidable_of_iff' _ (Iff.of_eq (k0_chk853.eq_1 v492))
theorem k0_idx853_inb : ∀ (v492 : IVec S16 32) (k0_hw853 : k0_chk853 v492), ∀ a x, ((![v492] : Fin 1 → IVec S16 32) a x).toNat < S100000.size a := fun v492 k0_hw853 => k0_hw853
def k0_off987 (k0_t81 : Fin k0_t81_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v494 : BitVec 32 := Scalar.addi v461 c64_i32_293
  let v495 : Index := Scalar.indexCast v494
  ![v495.toNat]

def k0_chk854 (v499 : IVec S16 32) : Prop :=
  (∀ a x, ((![v499] : Fin 1 → IVec S16 32) a x).toNat < S100000.size a)
instance k0_chk854.dec : ∀ (v499 : IVec S16 32), Decidable (k0_chk854 v499) := fun v499 => decidable_of_iff' _ (Iff.of_eq (k0_chk854.eq_1 v499))
theorem k0_idx854_inb : ∀ (v499 : IVec S16 32) (k0_hw854 : k0_chk854 v499), ∀ a x, ((![v499] : Fin 1 → IVec S16 32) a x).toNat < S100000.size a := fun v499 k0_hw854 => k0_hw854
def k0_off988 (k0_t81 : Fin k0_t81_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v501 : BitVec 32 := Scalar.addi v461 c80_i32_294
  let v502 : Index := Scalar.indexCast v501
  ![v502.toNat]

def k0_chk855 (v506 : IVec S16 32) : Prop :=
  (∀ a x, ((![v506] : Fin 1 → IVec S16 32) a x).toNat < S100000.size a)
instance k0_chk855.dec : ∀ (v506 : IVec S16 32), Decidable (k0_chk855 v506) := fun v506 => decidable_of_iff' _ (Iff.of_eq (k0_chk855.eq_1 v506))
theorem k0_idx855_inb : ∀ (v506 : IVec S16 32) (k0_hw855 : k0_chk855 v506), ∀ a x, ((![v506] : Fin 1 → IVec S16 32) a x).toNat < S100000.size a := fun v506 k0_hw855 => k0_hw855
def k0_off989 (k0_t81 : Fin k0_t81_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v508 : BitVec 32 := Scalar.addi v461 c96_i32_295
  let v509 : Index := Scalar.indexCast v508
  ![v509.toNat]

def k0_chk856 (v513 : IVec S16 32) : Prop :=
  (∀ a x, ((![v513] : Fin 1 → IVec S16 32) a x).toNat < S100000.size a)
instance k0_chk856.dec : ∀ (v513 : IVec S16 32), Decidable (k0_chk856 v513) := fun v513 => decidable_of_iff' _ (Iff.of_eq (k0_chk856.eq_1 v513))
theorem k0_idx856_inb : ∀ (v513 : IVec S16 32) (k0_hw856 : k0_chk856 v513), ∀ a x, ((![v513] : Fin 1 → IVec S16 32) a x).toNat < S100000.size a := fun v513 k0_hw856 => k0_hw856
def k0_off990 (k0_t81 : Fin k0_t81_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v515 : BitVec 32 := Scalar.addi v461 c112_i32_296
  let v516 : Index := Scalar.indexCast v515
  ![v516.toNat]

def k0_chk857 (v520 : IVec S16 32) : Prop :=
  (∀ a x, ((![v520] : Fin 1 → IVec S16 32) a x).toNat < S100000.size a)
instance k0_chk857.dec : ∀ (v520 : IVec S16 32), Decidable (k0_chk857 v520) := fun v520 => decidable_of_iff' _ (Iff.of_eq (k0_chk857.eq_1 v520))
theorem k0_idx857_inb : ∀ (v520 : IVec S16 32) (k0_hw857 : k0_chk857 v520), ∀ a x, ((![v520] : Fin 1 → IVec S16 32) a x).toNat < S100000.size a := fun v520 k0_hw857 => k0_hw857
def k0_off991 (k0_t81 : Fin k0_t81_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v522 : BitVec 32 := Scalar.addi v461 c128_i32_297
  let v523 : Index := Scalar.indexCast v522
  ![v523.toNat]

def k0_chk858 (v527 : IVec S16 32) : Prop :=
  (∀ a x, ((![v527] : Fin 1 → IVec S16 32) a x).toNat < S100000.size a)
instance k0_chk858.dec : ∀ (v527 : IVec S16 32), Decidable (k0_chk858 v527) := fun v527 => decidable_of_iff' _ (Iff.of_eq (k0_chk858.eq_1 v527))
theorem k0_idx858_inb : ∀ (v527 : IVec S16 32) (k0_hw858 : k0_chk858 v527), ∀ a x, ((![v527] : Fin 1 → IVec S16 32) a x).toNat < S100000.size a := fun v527 k0_hw858 => k0_hw858
def k0_off992 (k0_t81 : Fin k0_t81_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v529 : BitVec 32 := Scalar.addi v461 c144_i32_299
  let v530 : Index := Scalar.indexCast v529
  ![v530.toNat]

def k0_chk859 (v534 : IVec S16 32) : Prop :=
  (∀ a x, ((![v534] : Fin 1 → IVec S16 32) a x).toNat < S100000.size a)
instance k0_chk859.dec : ∀ (v534 : IVec S16 32), Decidable (k0_chk859 v534) := fun v534 => decidable_of_iff' _ (Iff.of_eq (k0_chk859.eq_1 v534))
theorem k0_idx859_inb : ∀ (v534 : IVec S16 32) (k0_hw859 : k0_chk859 v534), ∀ a x, ((![v534] : Fin 1 → IVec S16 32) a x).toNat < S100000.size a := fun v534 k0_hw859 => k0_hw859
def k0_off993 (k0_t81 : Fin k0_t81_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v536 : BitVec 32 := Scalar.addi v461 c160_i32_300
  let v537 : Index := Scalar.indexCast v536
  ![v537.toNat]

def k0_chk860 (v541 : IVec S16 32) : Prop :=
  (∀ a x, ((![v541] : Fin 1 → IVec S16 32) a x).toNat < S100000.size a)
instance k0_chk860.dec : ∀ (v541 : IVec S16 32), Decidable (k0_chk860 v541) := fun v541 => decidable_of_iff' _ (Iff.of_eq (k0_chk860.eq_1 v541))
theorem k0_idx860_inb : ∀ (v541 : IVec S16 32) (k0_hw860 : k0_chk860 v541), ∀ a x, ((![v541] : Fin 1 → IVec S16 32) a x).toNat < S100000.size a := fun v541 k0_hw860 => k0_hw860
def k0_off994 (k0_t81 : Fin k0_t81_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v543 : BitVec 32 := Scalar.addi v461 c176_i32_301
  let v544 : Index := Scalar.indexCast v543
  ![v544.toNat]

def k0_chk861 (v548 : IVec S16 32) : Prop :=
  (∀ a x, ((![v548] : Fin 1 → IVec S16 32) a x).toNat < S100000.size a)
instance k0_chk861.dec : ∀ (v548 : IVec S16 32), Decidable (k0_chk861 v548) := fun v548 => decidable_of_iff' _ (Iff.of_eq (k0_chk861.eq_1 v548))
theorem k0_idx861_inb : ∀ (v548 : IVec S16 32) (k0_hw861 : k0_chk861 v548), ∀ a x, ((![v548] : Fin 1 → IVec S16 32) a x).toNat < S100000.size a := fun v548 k0_hw861 => k0_hw861
def k0_off995 (k0_t81 : Fin k0_t81_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v550 : BitVec 32 := Scalar.addi v461 c192_i32_302
  let v551 : Index := Scalar.indexCast v550
  ![v551.toNat]

def k0_chk862 (v555 : IVec S16 32) : Prop :=
  (∀ a x, ((![v555] : Fin 1 → IVec S16 32) a x).toNat < S100000.size a)
instance k0_chk862.dec : ∀ (v555 : IVec S16 32), Decidable (k0_chk862 v555) := fun v555 => decidable_of_iff' _ (Iff.of_eq (k0_chk862.eq_1 v555))
theorem k0_idx862_inb : ∀ (v555 : IVec S16 32) (k0_hw862 : k0_chk862 v555), ∀ a x, ((![v555] : Fin 1 → IVec S16 32) a x).toNat < S100000.size a := fun v555 k0_hw862 => k0_hw862
def k0_off996 (k0_t81 : Fin k0_t81_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v557 : BitVec 32 := Scalar.addi v461 c208_i32_303
  let v558 : Index := Scalar.indexCast v557
  ![v558.toNat]

def k0_chk863 (v562 : IVec S16 32) : Prop :=
  (∀ a x, ((![v562] : Fin 1 → IVec S16 32) a x).toNat < S100000.size a)
instance k0_chk863.dec : ∀ (v562 : IVec S16 32), Decidable (k0_chk863 v562) := fun v562 => decidable_of_iff' _ (Iff.of_eq (k0_chk863.eq_1 v562))
theorem k0_idx863_inb : ∀ (v562 : IVec S16 32) (k0_hw863 : k0_chk863 v562), ∀ a x, ((![v562] : Fin 1 → IVec S16 32) a x).toNat < S100000.size a := fun v562 k0_hw863 => k0_hw863
def k0_off997 (k0_t81 : Fin k0_t81_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let v564 : BitVec 32 := Scalar.addi v461 c224_i32_304
  let v565 : Index := Scalar.indexCast v564
  ![v565.toNat]

def k0_chk864 (v569 : IVec S16 32) : Prop :=
  (∀ a x, ((![v569] : Fin 1 → IVec S16 32) a x).toNat < S100000.size a)
instance k0_chk864.dec : ∀ (v569 : IVec S16 32), Decidable (k0_chk864 v569) := fun v569 => decidable_of_iff' _ (Iff.of_eq (k0_chk864.eq_1 v569))
theorem k0_idx864_inb : ∀ (v569 : IVec S16 32) (k0_hw864 : k0_chk864 v569), ∀ a x, ((![v569] : Fin 1 → IVec S16 32) a x).toNat < S100000.size a := fun v569 k0_hw864 => k0_hw864
def k0_off998 (k0_t81 : Fin k0_t81_loop.trips) : Fin 1 → Nat :=
  let c0_i32_281 : BitVec 32 := 0#32
  let c1_i32_283 : BitVec 32 := 1#32
  let arg36 : BitVec 32 := Scf.iv c0_i32_281 c1_i32_283 k0_t81
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off999 (i : grid0.Coords) (k0_t79 : Fin (k0_t79_loop i).trips) : Fin 2 → Nat :=
  let c468_i32_285 : BitVec 32 := 468#32
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c1_i32_152 : BitVec 32 := 1#32
  let arg34 : BitVec 32 := Scf.iv v249 c1_i32_152 k0_t79
  let v460 : BitVec 32 := Scalar.addi c468_i32_285 arg34
  let c8192_i32_r108 : BitVec 32 := 8192#32
  ![v460.toNat, 8192]
@[reducible] def k0_t82_loop (i : grid0.Coords) : Scf.Loop 32 :=
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c36_i32_148 : BitVec 32 := 36#32
  let c0_i32_147 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c468_i32_146 : BitVec 32 := 468#32
  let v250 : BitVec 32 := Scalar.subi v38 c468_i32_146
  let v251 : BitVec 32 := Scalar.maxsi c0_i32_147 v250
  let v252 : BitVec 32 := Scalar.minsi c36_i32_148 v251
  let v256 : BitVec 32 := Scalar.subi v252 v249
  let c1_i32_151 : BitVec 32 := 1#32
  let v258 : BitVec 32 := Scalar.divsi v256 c1_i32_151
  let v259 : BitVec 32 := Scalar.muli v258 c1_i32_151
  let v260 : BitVec 32 := Scalar.addi v249 v259
  let v257 : BitVec 32 := Scalar.addi v249 v256
  let c1_i32_153 : BitVec 32 := 1#32
  ⟨v260, v257, c1_i32_153⟩
def k0_off1000 (i : grid0.Coords) (k0_t82 : Fin (k0_t82_loop i).trips) : Fin 2 → Nat :=
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c36_i32_148 : BitVec 32 := 36#32
  let c0_i32_147 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c468_i32_146 : BitVec 32 := 468#32
  let v250 : BitVec 32 := Scalar.subi v38 c468_i32_146
  let v251 : BitVec 32 := Scalar.maxsi c0_i32_147 v250
  let v252 : BitVec 32 := Scalar.minsi c36_i32_148 v251
  let v256 : BitVec 32 := Scalar.subi v252 v249
  let c1_i32_151 : BitVec 32 := 1#32
  let v258 : BitVec 32 := Scalar.divsi v256 c1_i32_151
  let v259 : BitVec 32 := Scalar.muli v258 c1_i32_151
  let v260 : BitVec 32 := Scalar.addi v249 v259
  let c1_i32_153 : BitVec 32 := 1#32
  let arg34 : BitVec 32 := Scf.iv v260 c1_i32_153 k0_t82
  let c0_i32_287_r109 : BitVec 32 := 0#32
  ![arg34.toNat, 0]
@[reducible] def k0_t83_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1001 (k0_t83 : Fin k0_t83_loop.trips) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk865 (v464 : IVec S16 32) : Prop :=
  (∀ a x, ((![v464] : Fin 1 → IVec S16 32) a x).toNat < S100000.size a)
instance k0_chk865.dec : ∀ (v464 : IVec S16 32), Decidable (k0_chk865 v464) := fun v464 => decidable_of_iff' _ (Iff.of_eq (k0_chk865.eq_1 v464))
theorem k0_idx865_inb : ∀ (v464 : IVec S16 32) (k0_hw865 : k0_chk865 v464), ∀ a x, ((![v464] : Fin 1 → IVec S16 32) a x).toNat < S100000.size a := fun v464 k0_hw865 => k0_hw865
def k0_off1002 (k0_t83 : Fin k0_t83_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v466 : BitVec 32 := Scalar.addi v461 c0_i32_288
  let v467 : Index := Scalar.indexCast v466
  ![v467.toNat]

def k0_chk866 (v471 : IVec S16 32) : Prop :=
  (∀ a x, ((![v471] : Fin 1 → IVec S16 32) a x).toNat < S100000.size a)
instance k0_chk866.dec : ∀ (v471 : IVec S16 32), Decidable (k0_chk866 v471) := fun v471 => decidable_of_iff' _ (Iff.of_eq (k0_chk866.eq_1 v471))
theorem k0_idx866_inb : ∀ (v471 : IVec S16 32) (k0_hw866 : k0_chk866 v471), ∀ a x, ((![v471] : Fin 1 → IVec S16 32) a x).toNat < S100000.size a := fun v471 k0_hw866 => k0_hw866
def k0_off1003 (k0_t83 : Fin k0_t83_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v473 : BitVec 32 := Scalar.addi v461 c16_i32_289
  let v474 : Index := Scalar.indexCast v473
  ![v474.toNat]

def k0_chk867 (v478 : IVec S16 32) : Prop :=
  (∀ a x, ((![v478] : Fin 1 → IVec S16 32) a x).toNat < S100000.size a)
instance k0_chk867.dec : ∀ (v478 : IVec S16 32), Decidable (k0_chk867 v478) := fun v478 => decidable_of_iff' _ (Iff.of_eq (k0_chk867.eq_1 v478))
theorem k0_idx867_inb : ∀ (v478 : IVec S16 32) (k0_hw867 : k0_chk867 v478), ∀ a x, ((![v478] : Fin 1 → IVec S16 32) a x).toNat < S100000.size a := fun v478 k0_hw867 => k0_hw867
def k0_off1004 (k0_t83 : Fin k0_t83_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v480 : BitVec 32 := Scalar.addi v461 c32_i32_291
  let v481 : Index := Scalar.indexCast v480
  ![v481.toNat]

def k0_chk868 (v485 : IVec S16 32) : Prop :=
  (∀ a x, ((![v485] : Fin 1 → IVec S16 32) a x).toNat < S100000.size a)
instance k0_chk868.dec : ∀ (v485 : IVec S16 32), Decidable (k0_chk868 v485) := fun v485 => decidable_of_iff' _ (Iff.of_eq (k0_chk868.eq_1 v485))
theorem k0_idx868_inb : ∀ (v485 : IVec S16 32) (k0_hw868 : k0_chk868 v485), ∀ a x, ((![v485] : Fin 1 → IVec S16 32) a x).toNat < S100000.size a := fun v485 k0_hw868 => k0_hw868
def k0_off1005 (k0_t83 : Fin k0_t83_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v487 : BitVec 32 := Scalar.addi v461 c48_i32_292
  let v488 : Index := Scalar.indexCast v487
  ![v488.toNat]

def k0_chk869 (v492 : IVec S16 32) : Prop :=
  (∀ a x, ((![v492] : Fin 1 → IVec S16 32) a x).toNat < S100000.size a)
instance k0_chk869.dec : ∀ (v492 : IVec S16 32), Decidable (k0_chk869 v492) := fun v492 => decidable_of_iff' _ (Iff.of_eq (k0_chk869.eq_1 v492))
theorem k0_idx869_inb : ∀ (v492 : IVec S16 32) (k0_hw869 : k0_chk869 v492), ∀ a x, ((![v492] : Fin 1 → IVec S16 32) a x).toNat < S100000.size a := fun v492 k0_hw869 => k0_hw869
def k0_off1006 (k0_t83 : Fin k0_t83_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v494 : BitVec 32 := Scalar.addi v461 c64_i32_293
  let v495 : Index := Scalar.indexCast v494
  ![v495.toNat]

def k0_chk870 (v499 : IVec S16 32) : Prop :=
  (∀ a x, ((![v499] : Fin 1 → IVec S16 32) a x).toNat < S100000.size a)
instance k0_chk870.dec : ∀ (v499 : IVec S16 32), Decidable (k0_chk870 v499) := fun v499 => decidable_of_iff' _ (Iff.of_eq (k0_chk870.eq_1 v499))
theorem k0_idx870_inb : ∀ (v499 : IVec S16 32) (k0_hw870 : k0_chk870 v499), ∀ a x, ((![v499] : Fin 1 → IVec S16 32) a x).toNat < S100000.size a := fun v499 k0_hw870 => k0_hw870
def k0_off1007 (k0_t83 : Fin k0_t83_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v501 : BitVec 32 := Scalar.addi v461 c80_i32_294
  let v502 : Index := Scalar.indexCast v501
  ![v502.toNat]

def k0_chk871 (v506 : IVec S16 32) : Prop :=
  (∀ a x, ((![v506] : Fin 1 → IVec S16 32) a x).toNat < S100000.size a)
instance k0_chk871.dec : ∀ (v506 : IVec S16 32), Decidable (k0_chk871 v506) := fun v506 => decidable_of_iff' _ (Iff.of_eq (k0_chk871.eq_1 v506))
theorem k0_idx871_inb : ∀ (v506 : IVec S16 32) (k0_hw871 : k0_chk871 v506), ∀ a x, ((![v506] : Fin 1 → IVec S16 32) a x).toNat < S100000.size a := fun v506 k0_hw871 => k0_hw871
def k0_off1008 (k0_t83 : Fin k0_t83_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v508 : BitVec 32 := Scalar.addi v461 c96_i32_295
  let v509 : Index := Scalar.indexCast v508
  ![v509.toNat]

def k0_chk872 (v513 : IVec S16 32) : Prop :=
  (∀ a x, ((![v513] : Fin 1 → IVec S16 32) a x).toNat < S100000.size a)
instance k0_chk872.dec : ∀ (v513 : IVec S16 32), Decidable (k0_chk872 v513) := fun v513 => decidable_of_iff' _ (Iff.of_eq (k0_chk872.eq_1 v513))
theorem k0_idx872_inb : ∀ (v513 : IVec S16 32) (k0_hw872 : k0_chk872 v513), ∀ a x, ((![v513] : Fin 1 → IVec S16 32) a x).toNat < S100000.size a := fun v513 k0_hw872 => k0_hw872
def k0_off1009 (k0_t83 : Fin k0_t83_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v515 : BitVec 32 := Scalar.addi v461 c112_i32_296
  let v516 : Index := Scalar.indexCast v515
  ![v516.toNat]

def k0_chk873 (v520 : IVec S16 32) : Prop :=
  (∀ a x, ((![v520] : Fin 1 → IVec S16 32) a x).toNat < S100000.size a)
instance k0_chk873.dec : ∀ (v520 : IVec S16 32), Decidable (k0_chk873 v520) := fun v520 => decidable_of_iff' _ (Iff.of_eq (k0_chk873.eq_1 v520))
theorem k0_idx873_inb : ∀ (v520 : IVec S16 32) (k0_hw873 : k0_chk873 v520), ∀ a x, ((![v520] : Fin 1 → IVec S16 32) a x).toNat < S100000.size a := fun v520 k0_hw873 => k0_hw873
def k0_off1010 (k0_t83 : Fin k0_t83_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v522 : BitVec 32 := Scalar.addi v461 c128_i32_297
  let v523 : Index := Scalar.indexCast v522
  ![v523.toNat]

def k0_chk874 (v527 : IVec S16 32) : Prop :=
  (∀ a x, ((![v527] : Fin 1 → IVec S16 32) a x).toNat < S100000.size a)
instance k0_chk874.dec : ∀ (v527 : IVec S16 32), Decidable (k0_chk874 v527) := fun v527 => decidable_of_iff' _ (Iff.of_eq (k0_chk874.eq_1 v527))
theorem k0_idx874_inb : ∀ (v527 : IVec S16 32) (k0_hw874 : k0_chk874 v527), ∀ a x, ((![v527] : Fin 1 → IVec S16 32) a x).toNat < S100000.size a := fun v527 k0_hw874 => k0_hw874
def k0_off1011 (k0_t83 : Fin k0_t83_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v529 : BitVec 32 := Scalar.addi v461 c144_i32_299
  let v530 : Index := Scalar.indexCast v529
  ![v530.toNat]

def k0_chk875 (v534 : IVec S16 32) : Prop :=
  (∀ a x, ((![v534] : Fin 1 → IVec S16 32) a x).toNat < S100000.size a)
instance k0_chk875.dec : ∀ (v534 : IVec S16 32), Decidable (k0_chk875 v534) := fun v534 => decidable_of_iff' _ (Iff.of_eq (k0_chk875.eq_1 v534))
theorem k0_idx875_inb : ∀ (v534 : IVec S16 32) (k0_hw875 : k0_chk875 v534), ∀ a x, ((![v534] : Fin 1 → IVec S16 32) a x).toNat < S100000.size a := fun v534 k0_hw875 => k0_hw875
def k0_off1012 (k0_t83 : Fin k0_t83_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v536 : BitVec 32 := Scalar.addi v461 c160_i32_300
  let v537 : Index := Scalar.indexCast v536
  ![v537.toNat]

def k0_chk876 (v541 : IVec S16 32) : Prop :=
  (∀ a x, ((![v541] : Fin 1 → IVec S16 32) a x).toNat < S100000.size a)
instance k0_chk876.dec : ∀ (v541 : IVec S16 32), Decidable (k0_chk876 v541) := fun v541 => decidable_of_iff' _ (Iff.of_eq (k0_chk876.eq_1 v541))
theorem k0_idx876_inb : ∀ (v541 : IVec S16 32) (k0_hw876 : k0_chk876 v541), ∀ a x, ((![v541] : Fin 1 → IVec S16 32) a x).toNat < S100000.size a := fun v541 k0_hw876 => k0_hw876
def k0_off1013 (k0_t83 : Fin k0_t83_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v543 : BitVec 32 := Scalar.addi v461 c176_i32_301
  let v544 : Index := Scalar.indexCast v543
  ![v544.toNat]

def k0_chk877 (v548 : IVec S16 32) : Prop :=
  (∀ a x, ((![v548] : Fin 1 → IVec S16 32) a x).toNat < S100000.size a)
instance k0_chk877.dec : ∀ (v548 : IVec S16 32), Decidable (k0_chk877 v548) := fun v548 => decidable_of_iff' _ (Iff.of_eq (k0_chk877.eq_1 v548))
theorem k0_idx877_inb : ∀ (v548 : IVec S16 32) (k0_hw877 : k0_chk877 v548), ∀ a x, ((![v548] : Fin 1 → IVec S16 32) a x).toNat < S100000.size a := fun v548 k0_hw877 => k0_hw877
def k0_off1014 (k0_t83 : Fin k0_t83_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v550 : BitVec 32 := Scalar.addi v461 c192_i32_302
  let v551 : Index := Scalar.indexCast v550
  ![v551.toNat]

def k0_chk878 (v555 : IVec S16 32) : Prop :=
  (∀ a x, ((![v555] : Fin 1 → IVec S16 32) a x).toNat < S100000.size a)
instance k0_chk878.dec : ∀ (v555 : IVec S16 32), Decidable (k0_chk878 v555) := fun v555 => decidable_of_iff' _ (Iff.of_eq (k0_chk878.eq_1 v555))
theorem k0_idx878_inb : ∀ (v555 : IVec S16 32) (k0_hw878 : k0_chk878 v555), ∀ a x, ((![v555] : Fin 1 → IVec S16 32) a x).toNat < S100000.size a := fun v555 k0_hw878 => k0_hw878
def k0_off1015 (k0_t83 : Fin k0_t83_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v557 : BitVec 32 := Scalar.addi v461 c208_i32_303
  let v558 : Index := Scalar.indexCast v557
  ![v558.toNat]

def k0_chk879 (v562 : IVec S16 32) : Prop :=
  (∀ a x, ((![v562] : Fin 1 → IVec S16 32) a x).toNat < S100000.size a)
instance k0_chk879.dec : ∀ (v562 : IVec S16 32), Decidable (k0_chk879 v562) := fun v562 => decidable_of_iff' _ (Iff.of_eq (k0_chk879.eq_1 v562))
theorem k0_idx879_inb : ∀ (v562 : IVec S16 32) (k0_hw879 : k0_chk879 v562), ∀ a x, ((![v562] : Fin 1 → IVec S16 32) a x).toNat < S100000.size a := fun v562 k0_hw879 => k0_hw879
def k0_off1016 (k0_t83 : Fin k0_t83_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let v564 : BitVec 32 := Scalar.addi v461 c224_i32_304
  let v565 : Index := Scalar.indexCast v564
  ![v565.toNat]

def k0_chk880 (v569 : IVec S16 32) : Prop :=
  (∀ a x, ((![v569] : Fin 1 → IVec S16 32) a x).toNat < S100000.size a)
instance k0_chk880.dec : ∀ (v569 : IVec S16 32), Decidable (k0_chk880 v569) := fun v569 => decidable_of_iff' _ (Iff.of_eq (k0_chk880.eq_1 v569))
theorem k0_idx880_inb : ∀ (v569 : IVec S16 32) (k0_hw880 : k0_chk880 v569), ∀ a x, ((![v569] : Fin 1 → IVec S16 32) a x).toNat < S100000.size a := fun v569 k0_hw880 => k0_hw880
def k0_off1017 (k0_t83 : Fin k0_t83_loop.trips) : Fin 1 → Nat :=
  let c0_i32_275 : BitVec 32 := 0#32
  let c1_i32_277 : BitVec 32 := 1#32
  let arg36 : BitVec 32 := Scf.iv c0_i32_275 c1_i32_277 k0_t83
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1018 (i : grid0.Coords) (k0_t82 : Fin (k0_t82_loop i).trips) : Fin 2 → Nat :=
  let c468_i32_279 : BitVec 32 := 468#32
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c36_i32_148 : BitVec 32 := 36#32
  let c0_i32_147 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c468_i32_146 : BitVec 32 := 468#32
  let v250 : BitVec 32 := Scalar.subi v38 c468_i32_146
  let v251 : BitVec 32 := Scalar.maxsi c0_i32_147 v250
  let v252 : BitVec 32 := Scalar.minsi c36_i32_148 v251
  let v256 : BitVec 32 := Scalar.subi v252 v249
  let c1_i32_151 : BitVec 32 := 1#32
  let v258 : BitVec 32 := Scalar.divsi v256 c1_i32_151
  let v259 : BitVec 32 := Scalar.muli v258 c1_i32_151
  let v260 : BitVec 32 := Scalar.addi v249 v259
  let c1_i32_153 : BitVec 32 := 1#32
  let arg34 : BitVec 32 := Scf.iv v260 c1_i32_153 k0_t82
  let v457 : BitVec 32 := Scalar.addi c468_i32_279 arg34
  let c0_i32_287_r110 : BitVec 32 := 0#32
  ![v457.toNat, 0]
@[reducible] def k0_t84_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1019 (k0_t84 : Fin k0_t84_loop.trips) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk881 (v464 : IVec S16 32) : Prop :=
  (∀ a x, ((![v464] : Fin 1 → IVec S16 32) a x).toNat < S100000.size a)
instance k0_chk881.dec : ∀ (v464 : IVec S16 32), Decidable (k0_chk881 v464) := fun v464 => decidable_of_iff' _ (Iff.of_eq (k0_chk881.eq_1 v464))
theorem k0_idx881_inb : ∀ (v464 : IVec S16 32) (k0_hw881 : k0_chk881 v464), ∀ a x, ((![v464] : Fin 1 → IVec S16 32) a x).toNat < S100000.size a := fun v464 k0_hw881 => k0_hw881
def k0_off1020 (k0_t84 : Fin k0_t84_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v466 : BitVec 32 := Scalar.addi v461 c0_i32_288
  let v467 : Index := Scalar.indexCast v466
  ![v467.toNat]

def k0_chk882 (v471 : IVec S16 32) : Prop :=
  (∀ a x, ((![v471] : Fin 1 → IVec S16 32) a x).toNat < S100000.size a)
instance k0_chk882.dec : ∀ (v471 : IVec S16 32), Decidable (k0_chk882 v471) := fun v471 => decidable_of_iff' _ (Iff.of_eq (k0_chk882.eq_1 v471))
theorem k0_idx882_inb : ∀ (v471 : IVec S16 32) (k0_hw882 : k0_chk882 v471), ∀ a x, ((![v471] : Fin 1 → IVec S16 32) a x).toNat < S100000.size a := fun v471 k0_hw882 => k0_hw882
def k0_off1021 (k0_t84 : Fin k0_t84_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v473 : BitVec 32 := Scalar.addi v461 c16_i32_289
  let v474 : Index := Scalar.indexCast v473
  ![v474.toNat]

def k0_chk883 (v478 : IVec S16 32) : Prop :=
  (∀ a x, ((![v478] : Fin 1 → IVec S16 32) a x).toNat < S100000.size a)
instance k0_chk883.dec : ∀ (v478 : IVec S16 32), Decidable (k0_chk883 v478) := fun v478 => decidable_of_iff' _ (Iff.of_eq (k0_chk883.eq_1 v478))
theorem k0_idx883_inb : ∀ (v478 : IVec S16 32) (k0_hw883 : k0_chk883 v478), ∀ a x, ((![v478] : Fin 1 → IVec S16 32) a x).toNat < S100000.size a := fun v478 k0_hw883 => k0_hw883
def k0_off1022 (k0_t84 : Fin k0_t84_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v480 : BitVec 32 := Scalar.addi v461 c32_i32_291
  let v481 : Index := Scalar.indexCast v480
  ![v481.toNat]

def k0_chk884 (v485 : IVec S16 32) : Prop :=
  (∀ a x, ((![v485] : Fin 1 → IVec S16 32) a x).toNat < S100000.size a)
instance k0_chk884.dec : ∀ (v485 : IVec S16 32), Decidable (k0_chk884 v485) := fun v485 => decidable_of_iff' _ (Iff.of_eq (k0_chk884.eq_1 v485))
theorem k0_idx884_inb : ∀ (v485 : IVec S16 32) (k0_hw884 : k0_chk884 v485), ∀ a x, ((![v485] : Fin 1 → IVec S16 32) a x).toNat < S100000.size a := fun v485 k0_hw884 => k0_hw884
def k0_off1023 (k0_t84 : Fin k0_t84_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v487 : BitVec 32 := Scalar.addi v461 c48_i32_292
  let v488 : Index := Scalar.indexCast v487
  ![v488.toNat]

def k0_chk885 (v492 : IVec S16 32) : Prop :=
  (∀ a x, ((![v492] : Fin 1 → IVec S16 32) a x).toNat < S100000.size a)
instance k0_chk885.dec : ∀ (v492 : IVec S16 32), Decidable (k0_chk885 v492) := fun v492 => decidable_of_iff' _ (Iff.of_eq (k0_chk885.eq_1 v492))
theorem k0_idx885_inb : ∀ (v492 : IVec S16 32) (k0_hw885 : k0_chk885 v492), ∀ a x, ((![v492] : Fin 1 → IVec S16 32) a x).toNat < S100000.size a := fun v492 k0_hw885 => k0_hw885
def k0_off1024 (k0_t84 : Fin k0_t84_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v494 : BitVec 32 := Scalar.addi v461 c64_i32_293
  let v495 : Index := Scalar.indexCast v494
  ![v495.toNat]

def k0_chk886 (v499 : IVec S16 32) : Prop :=
  (∀ a x, ((![v499] : Fin 1 → IVec S16 32) a x).toNat < S100000.size a)
instance k0_chk886.dec : ∀ (v499 : IVec S16 32), Decidable (k0_chk886 v499) := fun v499 => decidable_of_iff' _ (Iff.of_eq (k0_chk886.eq_1 v499))
theorem k0_idx886_inb : ∀ (v499 : IVec S16 32) (k0_hw886 : k0_chk886 v499), ∀ a x, ((![v499] : Fin 1 → IVec S16 32) a x).toNat < S100000.size a := fun v499 k0_hw886 => k0_hw886
def k0_off1025 (k0_t84 : Fin k0_t84_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v501 : BitVec 32 := Scalar.addi v461 c80_i32_294
  let v502 : Index := Scalar.indexCast v501
  ![v502.toNat]

def k0_chk887 (v506 : IVec S16 32) : Prop :=
  (∀ a x, ((![v506] : Fin 1 → IVec S16 32) a x).toNat < S100000.size a)
instance k0_chk887.dec : ∀ (v506 : IVec S16 32), Decidable (k0_chk887 v506) := fun v506 => decidable_of_iff' _ (Iff.of_eq (k0_chk887.eq_1 v506))
theorem k0_idx887_inb : ∀ (v506 : IVec S16 32) (k0_hw887 : k0_chk887 v506), ∀ a x, ((![v506] : Fin 1 → IVec S16 32) a x).toNat < S100000.size a := fun v506 k0_hw887 => k0_hw887
def k0_off1026 (k0_t84 : Fin k0_t84_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v508 : BitVec 32 := Scalar.addi v461 c96_i32_295
  let v509 : Index := Scalar.indexCast v508
  ![v509.toNat]

def k0_chk888 (v513 : IVec S16 32) : Prop :=
  (∀ a x, ((![v513] : Fin 1 → IVec S16 32) a x).toNat < S100000.size a)
instance k0_chk888.dec : ∀ (v513 : IVec S16 32), Decidable (k0_chk888 v513) := fun v513 => decidable_of_iff' _ (Iff.of_eq (k0_chk888.eq_1 v513))
theorem k0_idx888_inb : ∀ (v513 : IVec S16 32) (k0_hw888 : k0_chk888 v513), ∀ a x, ((![v513] : Fin 1 → IVec S16 32) a x).toNat < S100000.size a := fun v513 k0_hw888 => k0_hw888
def k0_off1027 (k0_t84 : Fin k0_t84_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v515 : BitVec 32 := Scalar.addi v461 c112_i32_296
  let v516 : Index := Scalar.indexCast v515
  ![v516.toNat]

def k0_chk889 (v520 : IVec S16 32) : Prop :=
  (∀ a x, ((![v520] : Fin 1 → IVec S16 32) a x).toNat < S100000.size a)
instance k0_chk889.dec : ∀ (v520 : IVec S16 32), Decidable (k0_chk889 v520) := fun v520 => decidable_of_iff' _ (Iff.of_eq (k0_chk889.eq_1 v520))
theorem k0_idx889_inb : ∀ (v520 : IVec S16 32) (k0_hw889 : k0_chk889 v520), ∀ a x, ((![v520] : Fin 1 → IVec S16 32) a x).toNat < S100000.size a := fun v520 k0_hw889 => k0_hw889
def k0_off1028 (k0_t84 : Fin k0_t84_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v522 : BitVec 32 := Scalar.addi v461 c128_i32_297
  let v523 : Index := Scalar.indexCast v522
  ![v523.toNat]

def k0_chk890 (v527 : IVec S16 32) : Prop :=
  (∀ a x, ((![v527] : Fin 1 → IVec S16 32) a x).toNat < S100000.size a)
instance k0_chk890.dec : ∀ (v527 : IVec S16 32), Decidable (k0_chk890 v527) := fun v527 => decidable_of_iff' _ (Iff.of_eq (k0_chk890.eq_1 v527))
theorem k0_idx890_inb : ∀ (v527 : IVec S16 32) (k0_hw890 : k0_chk890 v527), ∀ a x, ((![v527] : Fin 1 → IVec S16 32) a x).toNat < S100000.size a := fun v527 k0_hw890 => k0_hw890
def k0_off1029 (k0_t84 : Fin k0_t84_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v529 : BitVec 32 := Scalar.addi v461 c144_i32_299
  let v530 : Index := Scalar.indexCast v529
  ![v530.toNat]

def k0_chk891 (v534 : IVec S16 32) : Prop :=
  (∀ a x, ((![v534] : Fin 1 → IVec S16 32) a x).toNat < S100000.size a)
instance k0_chk891.dec : ∀ (v534 : IVec S16 32), Decidable (k0_chk891 v534) := fun v534 => decidable_of_iff' _ (Iff.of_eq (k0_chk891.eq_1 v534))
theorem k0_idx891_inb : ∀ (v534 : IVec S16 32) (k0_hw891 : k0_chk891 v534), ∀ a x, ((![v534] : Fin 1 → IVec S16 32) a x).toNat < S100000.size a := fun v534 k0_hw891 => k0_hw891
def k0_off1030 (k0_t84 : Fin k0_t84_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v536 : BitVec 32 := Scalar.addi v461 c160_i32_300
  let v537 : Index := Scalar.indexCast v536
  ![v537.toNat]

def k0_chk892 (v541 : IVec S16 32) : Prop :=
  (∀ a x, ((![v541] : Fin 1 → IVec S16 32) a x).toNat < S100000.size a)
instance k0_chk892.dec : ∀ (v541 : IVec S16 32), Decidable (k0_chk892 v541) := fun v541 => decidable_of_iff' _ (Iff.of_eq (k0_chk892.eq_1 v541))
theorem k0_idx892_inb : ∀ (v541 : IVec S16 32) (k0_hw892 : k0_chk892 v541), ∀ a x, ((![v541] : Fin 1 → IVec S16 32) a x).toNat < S100000.size a := fun v541 k0_hw892 => k0_hw892
def k0_off1031 (k0_t84 : Fin k0_t84_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v543 : BitVec 32 := Scalar.addi v461 c176_i32_301
  let v544 : Index := Scalar.indexCast v543
  ![v544.toNat]

def k0_chk893 (v548 : IVec S16 32) : Prop :=
  (∀ a x, ((![v548] : Fin 1 → IVec S16 32) a x).toNat < S100000.size a)
instance k0_chk893.dec : ∀ (v548 : IVec S16 32), Decidable (k0_chk893 v548) := fun v548 => decidable_of_iff' _ (Iff.of_eq (k0_chk893.eq_1 v548))
theorem k0_idx893_inb : ∀ (v548 : IVec S16 32) (k0_hw893 : k0_chk893 v548), ∀ a x, ((![v548] : Fin 1 → IVec S16 32) a x).toNat < S100000.size a := fun v548 k0_hw893 => k0_hw893
def k0_off1032 (k0_t84 : Fin k0_t84_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v550 : BitVec 32 := Scalar.addi v461 c192_i32_302
  let v551 : Index := Scalar.indexCast v550
  ![v551.toNat]

def k0_chk894 (v555 : IVec S16 32) : Prop :=
  (∀ a x, ((![v555] : Fin 1 → IVec S16 32) a x).toNat < S100000.size a)
instance k0_chk894.dec : ∀ (v555 : IVec S16 32), Decidable (k0_chk894 v555) := fun v555 => decidable_of_iff' _ (Iff.of_eq (k0_chk894.eq_1 v555))
theorem k0_idx894_inb : ∀ (v555 : IVec S16 32) (k0_hw894 : k0_chk894 v555), ∀ a x, ((![v555] : Fin 1 → IVec S16 32) a x).toNat < S100000.size a := fun v555 k0_hw894 => k0_hw894
def k0_off1033 (k0_t84 : Fin k0_t84_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v557 : BitVec 32 := Scalar.addi v461 c208_i32_303
  let v558 : Index := Scalar.indexCast v557
  ![v558.toNat]

def k0_chk895 (v562 : IVec S16 32) : Prop :=
  (∀ a x, ((![v562] : Fin 1 → IVec S16 32) a x).toNat < S100000.size a)
instance k0_chk895.dec : ∀ (v562 : IVec S16 32), Decidable (k0_chk895 v562) := fun v562 => decidable_of_iff' _ (Iff.of_eq (k0_chk895.eq_1 v562))
theorem k0_idx895_inb : ∀ (v562 : IVec S16 32) (k0_hw895 : k0_chk895 v562), ∀ a x, ((![v562] : Fin 1 → IVec S16 32) a x).toNat < S100000.size a := fun v562 k0_hw895 => k0_hw895
def k0_off1034 (k0_t84 : Fin k0_t84_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let v564 : BitVec 32 := Scalar.addi v461 c224_i32_304
  let v565 : Index := Scalar.indexCast v564
  ![v565.toNat]

def k0_chk896 (v569 : IVec S16 32) : Prop :=
  (∀ a x, ((![v569] : Fin 1 → IVec S16 32) a x).toNat < S100000.size a)
instance k0_chk896.dec : ∀ (v569 : IVec S16 32), Decidable (k0_chk896 v569) := fun v569 => decidable_of_iff' _ (Iff.of_eq (k0_chk896.eq_1 v569))
theorem k0_idx896_inb : ∀ (v569 : IVec S16 32) (k0_hw896 : k0_chk896 v569), ∀ a x, ((![v569] : Fin 1 → IVec S16 32) a x).toNat < S100000.size a := fun v569 k0_hw896 => k0_hw896
def k0_off1035 (k0_t84 : Fin k0_t84_loop.trips) : Fin 1 → Nat :=
  let c0_i32_281 : BitVec 32 := 0#32
  let c1_i32_283 : BitVec 32 := 1#32
  let arg36 : BitVec 32 := Scf.iv c0_i32_281 c1_i32_283 k0_t84
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1036 (i : grid0.Coords) (k0_t82 : Fin (k0_t82_loop i).trips) : Fin 2 → Nat :=
  let c468_i32_285 : BitVec 32 := 468#32
  let c36_i32_145 : BitVec 32 := 36#32
  let c0_i32_144 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c468_i32 : BitVec 32 := 468#32
  let v247 : BitVec 32 := Scalar.subi v19 c468_i32
  let v248 : BitVec 32 := Scalar.maxsi c0_i32_144 v247
  let v249 : BitVec 32 := Scalar.minsi c36_i32_145 v248
  let c36_i32_148 : BitVec 32 := 36#32
  let c0_i32_147 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c468_i32_146 : BitVec 32 := 468#32
  let v250 : BitVec 32 := Scalar.subi v38 c468_i32_146
  let v251 : BitVec 32 := Scalar.maxsi c0_i32_147 v250
  let v252 : BitVec 32 := Scalar.minsi c36_i32_148 v251
  let v256 : BitVec 32 := Scalar.subi v252 v249
  let c1_i32_151 : BitVec 32 := 1#32
  let v258 : BitVec 32 := Scalar.divsi v256 c1_i32_151
  let v259 : BitVec 32 := Scalar.muli v258 c1_i32_151
  let v260 : BitVec 32 := Scalar.addi v249 v259
  let c1_i32_153 : BitVec 32 := 1#32
  let arg34 : BitVec 32 := Scf.iv v260 c1_i32_153 k0_t82
  let v460 : BitVec 32 := Scalar.addi c468_i32_285 arg34
  let c8192_i32_r111 : BitVec 32 := 8192#32
  ![v460.toNat, 8192]
@[reducible] def k0_t85_loop (i : grid0.Coords) : Scf.Loop 32 :=
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c36_i32_158 : BitVec 32 := 36#32
  let c0_i32_157 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c504_i32_156 : BitVec 32 := 504#32
  let v266 : BitVec 32 := Scalar.subi v38 c504_i32_156
  let v267 : BitVec 32 := Scalar.maxsi c0_i32_157 v266
  let v268 : BitVec 32 := Scalar.minsi c36_i32_158 v267
  let v272 : BitVec 32 := Scalar.subi v268 v265
  let c1_i32_161 : BitVec 32 := 1#32
  let v274 : BitVec 32 := Scalar.divsi v272 c1_i32_161
  let v275 : BitVec 32 := Scalar.muli v274 c1_i32_161
  let v276 : BitVec 32 := Scalar.addi v265 v275
  let c1_i32_162 : BitVec 32 := 1#32
  ⟨v265, v276, c1_i32_162⟩
def k0_off1037 (i : grid0.Coords) (k0_t85 : Fin (k0_t85_loop i).trips) : Fin 2 → Nat :=
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c1_i32_162 : BitVec 32 := 1#32
  let arg34 : BitVec 32 := Scf.iv v265 c1_i32_162 k0_t85
  let c0_i32_287_r114 : BitVec 32 := 0#32
  ![arg34.toNat, 0]
@[reducible] def k0_t86_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1038 (k0_t86 : Fin k0_t86_loop.trips) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk897 (v464 : IVec S16 32) : Prop :=
  (∀ a x, ((![v464] : Fin 1 → IVec S16 32) a x).toNat < S100000.size a)
instance k0_chk897.dec : ∀ (v464 : IVec S16 32), Decidable (k0_chk897 v464) := fun v464 => decidable_of_iff' _ (Iff.of_eq (k0_chk897.eq_1 v464))
theorem k0_idx897_inb : ∀ (v464 : IVec S16 32) (k0_hw897 : k0_chk897 v464), ∀ a x, ((![v464] : Fin 1 → IVec S16 32) a x).toNat < S100000.size a := fun v464 k0_hw897 => k0_hw897
def k0_off1039 (k0_t86 : Fin k0_t86_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v466 : BitVec 32 := Scalar.addi v461 c0_i32_288
  let v467 : Index := Scalar.indexCast v466
  ![v467.toNat]

def k0_chk898 (v471 : IVec S16 32) : Prop :=
  (∀ a x, ((![v471] : Fin 1 → IVec S16 32) a x).toNat < S100000.size a)
instance k0_chk898.dec : ∀ (v471 : IVec S16 32), Decidable (k0_chk898 v471) := fun v471 => decidable_of_iff' _ (Iff.of_eq (k0_chk898.eq_1 v471))
theorem k0_idx898_inb : ∀ (v471 : IVec S16 32) (k0_hw898 : k0_chk898 v471), ∀ a x, ((![v471] : Fin 1 → IVec S16 32) a x).toNat < S100000.size a := fun v471 k0_hw898 => k0_hw898
def k0_off1040 (k0_t86 : Fin k0_t86_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v473 : BitVec 32 := Scalar.addi v461 c16_i32_289
  let v474 : Index := Scalar.indexCast v473
  ![v474.toNat]

def k0_chk899 (v478 : IVec S16 32) : Prop :=
  (∀ a x, ((![v478] : Fin 1 → IVec S16 32) a x).toNat < S100000.size a)
instance k0_chk899.dec : ∀ (v478 : IVec S16 32), Decidable (k0_chk899 v478) := fun v478 => decidable_of_iff' _ (Iff.of_eq (k0_chk899.eq_1 v478))
theorem k0_idx899_inb : ∀ (v478 : IVec S16 32) (k0_hw899 : k0_chk899 v478), ∀ a x, ((![v478] : Fin 1 → IVec S16 32) a x).toNat < S100000.size a := fun v478 k0_hw899 => k0_hw899
def k0_off1041 (k0_t86 : Fin k0_t86_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v480 : BitVec 32 := Scalar.addi v461 c32_i32_291
  let v481 : Index := Scalar.indexCast v480
  ![v481.toNat]

def k0_chk900 (v485 : IVec S16 32) : Prop :=
  (∀ a x, ((![v485] : Fin 1 → IVec S16 32) a x).toNat < S100000.size a)
instance k0_chk900.dec : ∀ (v485 : IVec S16 32), Decidable (k0_chk900 v485) := fun v485 => decidable_of_iff' _ (Iff.of_eq (k0_chk900.eq_1 v485))
theorem k0_idx900_inb : ∀ (v485 : IVec S16 32) (k0_hw900 : k0_chk900 v485), ∀ a x, ((![v485] : Fin 1 → IVec S16 32) a x).toNat < S100000.size a := fun v485 k0_hw900 => k0_hw900
def k0_off1042 (k0_t86 : Fin k0_t86_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v487 : BitVec 32 := Scalar.addi v461 c48_i32_292
  let v488 : Index := Scalar.indexCast v487
  ![v488.toNat]

def k0_chk901 (v492 : IVec S16 32) : Prop :=
  (∀ a x, ((![v492] : Fin 1 → IVec S16 32) a x).toNat < S100000.size a)
instance k0_chk901.dec : ∀ (v492 : IVec S16 32), Decidable (k0_chk901 v492) := fun v492 => decidable_of_iff' _ (Iff.of_eq (k0_chk901.eq_1 v492))
theorem k0_idx901_inb : ∀ (v492 : IVec S16 32) (k0_hw901 : k0_chk901 v492), ∀ a x, ((![v492] : Fin 1 → IVec S16 32) a x).toNat < S100000.size a := fun v492 k0_hw901 => k0_hw901
def k0_off1043 (k0_t86 : Fin k0_t86_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v494 : BitVec 32 := Scalar.addi v461 c64_i32_293
  let v495 : Index := Scalar.indexCast v494
  ![v495.toNat]

def k0_chk902 (v499 : IVec S16 32) : Prop :=
  (∀ a x, ((![v499] : Fin 1 → IVec S16 32) a x).toNat < S100000.size a)
instance k0_chk902.dec : ∀ (v499 : IVec S16 32), Decidable (k0_chk902 v499) := fun v499 => decidable_of_iff' _ (Iff.of_eq (k0_chk902.eq_1 v499))
theorem k0_idx902_inb : ∀ (v499 : IVec S16 32) (k0_hw902 : k0_chk902 v499), ∀ a x, ((![v499] : Fin 1 → IVec S16 32) a x).toNat < S100000.size a := fun v499 k0_hw902 => k0_hw902
def k0_off1044 (k0_t86 : Fin k0_t86_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v501 : BitVec 32 := Scalar.addi v461 c80_i32_294
  let v502 : Index := Scalar.indexCast v501
  ![v502.toNat]

def k0_chk903 (v506 : IVec S16 32) : Prop :=
  (∀ a x, ((![v506] : Fin 1 → IVec S16 32) a x).toNat < S100000.size a)
instance k0_chk903.dec : ∀ (v506 : IVec S16 32), Decidable (k0_chk903 v506) := fun v506 => decidable_of_iff' _ (Iff.of_eq (k0_chk903.eq_1 v506))
theorem k0_idx903_inb : ∀ (v506 : IVec S16 32) (k0_hw903 : k0_chk903 v506), ∀ a x, ((![v506] : Fin 1 → IVec S16 32) a x).toNat < S100000.size a := fun v506 k0_hw903 => k0_hw903
def k0_off1045 (k0_t86 : Fin k0_t86_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v508 : BitVec 32 := Scalar.addi v461 c96_i32_295
  let v509 : Index := Scalar.indexCast v508
  ![v509.toNat]

def k0_chk904 (v513 : IVec S16 32) : Prop :=
  (∀ a x, ((![v513] : Fin 1 → IVec S16 32) a x).toNat < S100000.size a)
instance k0_chk904.dec : ∀ (v513 : IVec S16 32), Decidable (k0_chk904 v513) := fun v513 => decidable_of_iff' _ (Iff.of_eq (k0_chk904.eq_1 v513))
theorem k0_idx904_inb : ∀ (v513 : IVec S16 32) (k0_hw904 : k0_chk904 v513), ∀ a x, ((![v513] : Fin 1 → IVec S16 32) a x).toNat < S100000.size a := fun v513 k0_hw904 => k0_hw904
def k0_off1046 (k0_t86 : Fin k0_t86_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v515 : BitVec 32 := Scalar.addi v461 c112_i32_296
  let v516 : Index := Scalar.indexCast v515
  ![v516.toNat]

def k0_chk905 (v520 : IVec S16 32) : Prop :=
  (∀ a x, ((![v520] : Fin 1 → IVec S16 32) a x).toNat < S100000.size a)
instance k0_chk905.dec : ∀ (v520 : IVec S16 32), Decidable (k0_chk905 v520) := fun v520 => decidable_of_iff' _ (Iff.of_eq (k0_chk905.eq_1 v520))
theorem k0_idx905_inb : ∀ (v520 : IVec S16 32) (k0_hw905 : k0_chk905 v520), ∀ a x, ((![v520] : Fin 1 → IVec S16 32) a x).toNat < S100000.size a := fun v520 k0_hw905 => k0_hw905
def k0_off1047 (k0_t86 : Fin k0_t86_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v522 : BitVec 32 := Scalar.addi v461 c128_i32_297
  let v523 : Index := Scalar.indexCast v522
  ![v523.toNat]

def k0_chk906 (v527 : IVec S16 32) : Prop :=
  (∀ a x, ((![v527] : Fin 1 → IVec S16 32) a x).toNat < S100000.size a)
instance k0_chk906.dec : ∀ (v527 : IVec S16 32), Decidable (k0_chk906 v527) := fun v527 => decidable_of_iff' _ (Iff.of_eq (k0_chk906.eq_1 v527))
theorem k0_idx906_inb : ∀ (v527 : IVec S16 32) (k0_hw906 : k0_chk906 v527), ∀ a x, ((![v527] : Fin 1 → IVec S16 32) a x).toNat < S100000.size a := fun v527 k0_hw906 => k0_hw906
def k0_off1048 (k0_t86 : Fin k0_t86_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v529 : BitVec 32 := Scalar.addi v461 c144_i32_299
  let v530 : Index := Scalar.indexCast v529
  ![v530.toNat]

def k0_chk907 (v534 : IVec S16 32) : Prop :=
  (∀ a x, ((![v534] : Fin 1 → IVec S16 32) a x).toNat < S100000.size a)
instance k0_chk907.dec : ∀ (v534 : IVec S16 32), Decidable (k0_chk907 v534) := fun v534 => decidable_of_iff' _ (Iff.of_eq (k0_chk907.eq_1 v534))
theorem k0_idx907_inb : ∀ (v534 : IVec S16 32) (k0_hw907 : k0_chk907 v534), ∀ a x, ((![v534] : Fin 1 → IVec S16 32) a x).toNat < S100000.size a := fun v534 k0_hw907 => k0_hw907
def k0_off1049 (k0_t86 : Fin k0_t86_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v536 : BitVec 32 := Scalar.addi v461 c160_i32_300
  let v537 : Index := Scalar.indexCast v536
  ![v537.toNat]

def k0_chk908 (v541 : IVec S16 32) : Prop :=
  (∀ a x, ((![v541] : Fin 1 → IVec S16 32) a x).toNat < S100000.size a)
instance k0_chk908.dec : ∀ (v541 : IVec S16 32), Decidable (k0_chk908 v541) := fun v541 => decidable_of_iff' _ (Iff.of_eq (k0_chk908.eq_1 v541))
theorem k0_idx908_inb : ∀ (v541 : IVec S16 32) (k0_hw908 : k0_chk908 v541), ∀ a x, ((![v541] : Fin 1 → IVec S16 32) a x).toNat < S100000.size a := fun v541 k0_hw908 => k0_hw908
def k0_off1050 (k0_t86 : Fin k0_t86_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v543 : BitVec 32 := Scalar.addi v461 c176_i32_301
  let v544 : Index := Scalar.indexCast v543
  ![v544.toNat]

def k0_chk909 (v548 : IVec S16 32) : Prop :=
  (∀ a x, ((![v548] : Fin 1 → IVec S16 32) a x).toNat < S100000.size a)
instance k0_chk909.dec : ∀ (v548 : IVec S16 32), Decidable (k0_chk909 v548) := fun v548 => decidable_of_iff' _ (Iff.of_eq (k0_chk909.eq_1 v548))
theorem k0_idx909_inb : ∀ (v548 : IVec S16 32) (k0_hw909 : k0_chk909 v548), ∀ a x, ((![v548] : Fin 1 → IVec S16 32) a x).toNat < S100000.size a := fun v548 k0_hw909 => k0_hw909
def k0_off1051 (k0_t86 : Fin k0_t86_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v550 : BitVec 32 := Scalar.addi v461 c192_i32_302
  let v551 : Index := Scalar.indexCast v550
  ![v551.toNat]

def k0_chk910 (v555 : IVec S16 32) : Prop :=
  (∀ a x, ((![v555] : Fin 1 → IVec S16 32) a x).toNat < S100000.size a)
instance k0_chk910.dec : ∀ (v555 : IVec S16 32), Decidable (k0_chk910 v555) := fun v555 => decidable_of_iff' _ (Iff.of_eq (k0_chk910.eq_1 v555))
theorem k0_idx910_inb : ∀ (v555 : IVec S16 32) (k0_hw910 : k0_chk910 v555), ∀ a x, ((![v555] : Fin 1 → IVec S16 32) a x).toNat < S100000.size a := fun v555 k0_hw910 => k0_hw910
def k0_off1052 (k0_t86 : Fin k0_t86_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v557 : BitVec 32 := Scalar.addi v461 c208_i32_303
  let v558 : Index := Scalar.indexCast v557
  ![v558.toNat]

def k0_chk911 (v562 : IVec S16 32) : Prop :=
  (∀ a x, ((![v562] : Fin 1 → IVec S16 32) a x).toNat < S100000.size a)
instance k0_chk911.dec : ∀ (v562 : IVec S16 32), Decidable (k0_chk911 v562) := fun v562 => decidable_of_iff' _ (Iff.of_eq (k0_chk911.eq_1 v562))
theorem k0_idx911_inb : ∀ (v562 : IVec S16 32) (k0_hw911 : k0_chk911 v562), ∀ a x, ((![v562] : Fin 1 → IVec S16 32) a x).toNat < S100000.size a := fun v562 k0_hw911 => k0_hw911
def k0_off1053 (k0_t86 : Fin k0_t86_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let v564 : BitVec 32 := Scalar.addi v461 c224_i32_304
  let v565 : Index := Scalar.indexCast v564
  ![v565.toNat]

def k0_chk912 (v569 : IVec S16 32) : Prop :=
  (∀ a x, ((![v569] : Fin 1 → IVec S16 32) a x).toNat < S100000.size a)
instance k0_chk912.dec : ∀ (v569 : IVec S16 32), Decidable (k0_chk912 v569) := fun v569 => decidable_of_iff' _ (Iff.of_eq (k0_chk912.eq_1 v569))
theorem k0_idx912_inb : ∀ (v569 : IVec S16 32) (k0_hw912 : k0_chk912 v569), ∀ a x, ((![v569] : Fin 1 → IVec S16 32) a x).toNat < S100000.size a := fun v569 k0_hw912 => k0_hw912
def k0_off1054 (k0_t86 : Fin k0_t86_loop.trips) : Fin 1 → Nat :=
  let c0_i32_275 : BitVec 32 := 0#32
  let c1_i32_277 : BitVec 32 := 1#32
  let arg36 : BitVec 32 := Scf.iv c0_i32_275 c1_i32_277 k0_t86
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1055 (i : grid0.Coords) (k0_t85 : Fin (k0_t85_loop i).trips) : Fin 2 → Nat :=
  let c504_i32_279 : BitVec 32 := 504#32
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c1_i32_162 : BitVec 32 := 1#32
  let arg34 : BitVec 32 := Scf.iv v265 c1_i32_162 k0_t85
  let v457 : BitVec 32 := Scalar.addi c504_i32_279 arg34
  let c0_i32_287_r115 : BitVec 32 := 0#32
  ![v457.toNat, 0]
@[reducible] def k0_t87_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1056 (k0_t87 : Fin k0_t87_loop.trips) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk913 (v464 : IVec S16 32) : Prop :=
  (∀ a x, ((![v464] : Fin 1 → IVec S16 32) a x).toNat < S100000.size a)
instance k0_chk913.dec : ∀ (v464 : IVec S16 32), Decidable (k0_chk913 v464) := fun v464 => decidable_of_iff' _ (Iff.of_eq (k0_chk913.eq_1 v464))
theorem k0_idx913_inb : ∀ (v464 : IVec S16 32) (k0_hw913 : k0_chk913 v464), ∀ a x, ((![v464] : Fin 1 → IVec S16 32) a x).toNat < S100000.size a := fun v464 k0_hw913 => k0_hw913
def k0_off1057 (k0_t87 : Fin k0_t87_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v466 : BitVec 32 := Scalar.addi v461 c0_i32_288
  let v467 : Index := Scalar.indexCast v466
  ![v467.toNat]

def k0_chk914 (v471 : IVec S16 32) : Prop :=
  (∀ a x, ((![v471] : Fin 1 → IVec S16 32) a x).toNat < S100000.size a)
instance k0_chk914.dec : ∀ (v471 : IVec S16 32), Decidable (k0_chk914 v471) := fun v471 => decidable_of_iff' _ (Iff.of_eq (k0_chk914.eq_1 v471))
theorem k0_idx914_inb : ∀ (v471 : IVec S16 32) (k0_hw914 : k0_chk914 v471), ∀ a x, ((![v471] : Fin 1 → IVec S16 32) a x).toNat < S100000.size a := fun v471 k0_hw914 => k0_hw914
def k0_off1058 (k0_t87 : Fin k0_t87_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v473 : BitVec 32 := Scalar.addi v461 c16_i32_289
  let v474 : Index := Scalar.indexCast v473
  ![v474.toNat]

def k0_chk915 (v478 : IVec S16 32) : Prop :=
  (∀ a x, ((![v478] : Fin 1 → IVec S16 32) a x).toNat < S100000.size a)
instance k0_chk915.dec : ∀ (v478 : IVec S16 32), Decidable (k0_chk915 v478) := fun v478 => decidable_of_iff' _ (Iff.of_eq (k0_chk915.eq_1 v478))
theorem k0_idx915_inb : ∀ (v478 : IVec S16 32) (k0_hw915 : k0_chk915 v478), ∀ a x, ((![v478] : Fin 1 → IVec S16 32) a x).toNat < S100000.size a := fun v478 k0_hw915 => k0_hw915
def k0_off1059 (k0_t87 : Fin k0_t87_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v480 : BitVec 32 := Scalar.addi v461 c32_i32_291
  let v481 : Index := Scalar.indexCast v480
  ![v481.toNat]

def k0_chk916 (v485 : IVec S16 32) : Prop :=
  (∀ a x, ((![v485] : Fin 1 → IVec S16 32) a x).toNat < S100000.size a)
instance k0_chk916.dec : ∀ (v485 : IVec S16 32), Decidable (k0_chk916 v485) := fun v485 => decidable_of_iff' _ (Iff.of_eq (k0_chk916.eq_1 v485))
theorem k0_idx916_inb : ∀ (v485 : IVec S16 32) (k0_hw916 : k0_chk916 v485), ∀ a x, ((![v485] : Fin 1 → IVec S16 32) a x).toNat < S100000.size a := fun v485 k0_hw916 => k0_hw916
def k0_off1060 (k0_t87 : Fin k0_t87_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v487 : BitVec 32 := Scalar.addi v461 c48_i32_292
  let v488 : Index := Scalar.indexCast v487
  ![v488.toNat]

def k0_chk917 (v492 : IVec S16 32) : Prop :=
  (∀ a x, ((![v492] : Fin 1 → IVec S16 32) a x).toNat < S100000.size a)
instance k0_chk917.dec : ∀ (v492 : IVec S16 32), Decidable (k0_chk917 v492) := fun v492 => decidable_of_iff' _ (Iff.of_eq (k0_chk917.eq_1 v492))
theorem k0_idx917_inb : ∀ (v492 : IVec S16 32) (k0_hw917 : k0_chk917 v492), ∀ a x, ((![v492] : Fin 1 → IVec S16 32) a x).toNat < S100000.size a := fun v492 k0_hw917 => k0_hw917
def k0_off1061 (k0_t87 : Fin k0_t87_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v494 : BitVec 32 := Scalar.addi v461 c64_i32_293
  let v495 : Index := Scalar.indexCast v494
  ![v495.toNat]

def k0_chk918 (v499 : IVec S16 32) : Prop :=
  (∀ a x, ((![v499] : Fin 1 → IVec S16 32) a x).toNat < S100000.size a)
instance k0_chk918.dec : ∀ (v499 : IVec S16 32), Decidable (k0_chk918 v499) := fun v499 => decidable_of_iff' _ (Iff.of_eq (k0_chk918.eq_1 v499))
theorem k0_idx918_inb : ∀ (v499 : IVec S16 32) (k0_hw918 : k0_chk918 v499), ∀ a x, ((![v499] : Fin 1 → IVec S16 32) a x).toNat < S100000.size a := fun v499 k0_hw918 => k0_hw918
def k0_off1062 (k0_t87 : Fin k0_t87_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v501 : BitVec 32 := Scalar.addi v461 c80_i32_294
  let v502 : Index := Scalar.indexCast v501
  ![v502.toNat]

def k0_chk919 (v506 : IVec S16 32) : Prop :=
  (∀ a x, ((![v506] : Fin 1 → IVec S16 32) a x).toNat < S100000.size a)
instance k0_chk919.dec : ∀ (v506 : IVec S16 32), Decidable (k0_chk919 v506) := fun v506 => decidable_of_iff' _ (Iff.of_eq (k0_chk919.eq_1 v506))
theorem k0_idx919_inb : ∀ (v506 : IVec S16 32) (k0_hw919 : k0_chk919 v506), ∀ a x, ((![v506] : Fin 1 → IVec S16 32) a x).toNat < S100000.size a := fun v506 k0_hw919 => k0_hw919
def k0_off1063 (k0_t87 : Fin k0_t87_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v508 : BitVec 32 := Scalar.addi v461 c96_i32_295
  let v509 : Index := Scalar.indexCast v508
  ![v509.toNat]

def k0_chk920 (v513 : IVec S16 32) : Prop :=
  (∀ a x, ((![v513] : Fin 1 → IVec S16 32) a x).toNat < S100000.size a)
instance k0_chk920.dec : ∀ (v513 : IVec S16 32), Decidable (k0_chk920 v513) := fun v513 => decidable_of_iff' _ (Iff.of_eq (k0_chk920.eq_1 v513))
theorem k0_idx920_inb : ∀ (v513 : IVec S16 32) (k0_hw920 : k0_chk920 v513), ∀ a x, ((![v513] : Fin 1 → IVec S16 32) a x).toNat < S100000.size a := fun v513 k0_hw920 => k0_hw920
def k0_off1064 (k0_t87 : Fin k0_t87_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v515 : BitVec 32 := Scalar.addi v461 c112_i32_296
  let v516 : Index := Scalar.indexCast v515
  ![v516.toNat]

def k0_chk921 (v520 : IVec S16 32) : Prop :=
  (∀ a x, ((![v520] : Fin 1 → IVec S16 32) a x).toNat < S100000.size a)
instance k0_chk921.dec : ∀ (v520 : IVec S16 32), Decidable (k0_chk921 v520) := fun v520 => decidable_of_iff' _ (Iff.of_eq (k0_chk921.eq_1 v520))
theorem k0_idx921_inb : ∀ (v520 : IVec S16 32) (k0_hw921 : k0_chk921 v520), ∀ a x, ((![v520] : Fin 1 → IVec S16 32) a x).toNat < S100000.size a := fun v520 k0_hw921 => k0_hw921
def k0_off1065 (k0_t87 : Fin k0_t87_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v522 : BitVec 32 := Scalar.addi v461 c128_i32_297
  let v523 : Index := Scalar.indexCast v522
  ![v523.toNat]

def k0_chk922 (v527 : IVec S16 32) : Prop :=
  (∀ a x, ((![v527] : Fin 1 → IVec S16 32) a x).toNat < S100000.size a)
instance k0_chk922.dec : ∀ (v527 : IVec S16 32), Decidable (k0_chk922 v527) := fun v527 => decidable_of_iff' _ (Iff.of_eq (k0_chk922.eq_1 v527))
theorem k0_idx922_inb : ∀ (v527 : IVec S16 32) (k0_hw922 : k0_chk922 v527), ∀ a x, ((![v527] : Fin 1 → IVec S16 32) a x).toNat < S100000.size a := fun v527 k0_hw922 => k0_hw922
def k0_off1066 (k0_t87 : Fin k0_t87_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v529 : BitVec 32 := Scalar.addi v461 c144_i32_299
  let v530 : Index := Scalar.indexCast v529
  ![v530.toNat]

def k0_chk923 (v534 : IVec S16 32) : Prop :=
  (∀ a x, ((![v534] : Fin 1 → IVec S16 32) a x).toNat < S100000.size a)
instance k0_chk923.dec : ∀ (v534 : IVec S16 32), Decidable (k0_chk923 v534) := fun v534 => decidable_of_iff' _ (Iff.of_eq (k0_chk923.eq_1 v534))
theorem k0_idx923_inb : ∀ (v534 : IVec S16 32) (k0_hw923 : k0_chk923 v534), ∀ a x, ((![v534] : Fin 1 → IVec S16 32) a x).toNat < S100000.size a := fun v534 k0_hw923 => k0_hw923
def k0_off1067 (k0_t87 : Fin k0_t87_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v536 : BitVec 32 := Scalar.addi v461 c160_i32_300
  let v537 : Index := Scalar.indexCast v536
  ![v537.toNat]

def k0_chk924 (v541 : IVec S16 32) : Prop :=
  (∀ a x, ((![v541] : Fin 1 → IVec S16 32) a x).toNat < S100000.size a)
instance k0_chk924.dec : ∀ (v541 : IVec S16 32), Decidable (k0_chk924 v541) := fun v541 => decidable_of_iff' _ (Iff.of_eq (k0_chk924.eq_1 v541))
theorem k0_idx924_inb : ∀ (v541 : IVec S16 32) (k0_hw924 : k0_chk924 v541), ∀ a x, ((![v541] : Fin 1 → IVec S16 32) a x).toNat < S100000.size a := fun v541 k0_hw924 => k0_hw924
def k0_off1068 (k0_t87 : Fin k0_t87_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v543 : BitVec 32 := Scalar.addi v461 c176_i32_301
  let v544 : Index := Scalar.indexCast v543
  ![v544.toNat]

def k0_chk925 (v548 : IVec S16 32) : Prop :=
  (∀ a x, ((![v548] : Fin 1 → IVec S16 32) a x).toNat < S100000.size a)
instance k0_chk925.dec : ∀ (v548 : IVec S16 32), Decidable (k0_chk925 v548) := fun v548 => decidable_of_iff' _ (Iff.of_eq (k0_chk925.eq_1 v548))
theorem k0_idx925_inb : ∀ (v548 : IVec S16 32) (k0_hw925 : k0_chk925 v548), ∀ a x, ((![v548] : Fin 1 → IVec S16 32) a x).toNat < S100000.size a := fun v548 k0_hw925 => k0_hw925
def k0_off1069 (k0_t87 : Fin k0_t87_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v550 : BitVec 32 := Scalar.addi v461 c192_i32_302
  let v551 : Index := Scalar.indexCast v550
  ![v551.toNat]

def k0_chk926 (v555 : IVec S16 32) : Prop :=
  (∀ a x, ((![v555] : Fin 1 → IVec S16 32) a x).toNat < S100000.size a)
instance k0_chk926.dec : ∀ (v555 : IVec S16 32), Decidable (k0_chk926 v555) := fun v555 => decidable_of_iff' _ (Iff.of_eq (k0_chk926.eq_1 v555))
theorem k0_idx926_inb : ∀ (v555 : IVec S16 32) (k0_hw926 : k0_chk926 v555), ∀ a x, ((![v555] : Fin 1 → IVec S16 32) a x).toNat < S100000.size a := fun v555 k0_hw926 => k0_hw926
def k0_off1070 (k0_t87 : Fin k0_t87_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v557 : BitVec 32 := Scalar.addi v461 c208_i32_303
  let v558 : Index := Scalar.indexCast v557
  ![v558.toNat]

def k0_chk927 (v562 : IVec S16 32) : Prop :=
  (∀ a x, ((![v562] : Fin 1 → IVec S16 32) a x).toNat < S100000.size a)
instance k0_chk927.dec : ∀ (v562 : IVec S16 32), Decidable (k0_chk927 v562) := fun v562 => decidable_of_iff' _ (Iff.of_eq (k0_chk927.eq_1 v562))
theorem k0_idx927_inb : ∀ (v562 : IVec S16 32) (k0_hw927 : k0_chk927 v562), ∀ a x, ((![v562] : Fin 1 → IVec S16 32) a x).toNat < S100000.size a := fun v562 k0_hw927 => k0_hw927
def k0_off1071 (k0_t87 : Fin k0_t87_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let v564 : BitVec 32 := Scalar.addi v461 c224_i32_304
  let v565 : Index := Scalar.indexCast v564
  ![v565.toNat]

def k0_chk928 (v569 : IVec S16 32) : Prop :=
  (∀ a x, ((![v569] : Fin 1 → IVec S16 32) a x).toNat < S100000.size a)
instance k0_chk928.dec : ∀ (v569 : IVec S16 32), Decidable (k0_chk928 v569) := fun v569 => decidable_of_iff' _ (Iff.of_eq (k0_chk928.eq_1 v569))
theorem k0_idx928_inb : ∀ (v569 : IVec S16 32) (k0_hw928 : k0_chk928 v569), ∀ a x, ((![v569] : Fin 1 → IVec S16 32) a x).toNat < S100000.size a := fun v569 k0_hw928 => k0_hw928
def k0_off1072 (k0_t87 : Fin k0_t87_loop.trips) : Fin 1 → Nat :=
  let c0_i32_281 : BitVec 32 := 0#32
  let c1_i32_283 : BitVec 32 := 1#32
  let arg36 : BitVec 32 := Scf.iv c0_i32_281 c1_i32_283 k0_t87
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1073 (i : grid0.Coords) (k0_t85 : Fin (k0_t85_loop i).trips) : Fin 2 → Nat :=
  let c504_i32_285 : BitVec 32 := 504#32
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c1_i32_162 : BitVec 32 := 1#32
  let arg34 : BitVec 32 := Scf.iv v265 c1_i32_162 k0_t85
  let v460 : BitVec 32 := Scalar.addi c504_i32_285 arg34
  let c8192_i32_r116 : BitVec 32 := 8192#32
  ![v460.toNat, 8192]
@[reducible] def k0_t88_loop (i : grid0.Coords) : Scf.Loop 32 :=
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c36_i32_158 : BitVec 32 := 36#32
  let c0_i32_157 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c504_i32_156 : BitVec 32 := 504#32
  let v266 : BitVec 32 := Scalar.subi v38 c504_i32_156
  let v267 : BitVec 32 := Scalar.maxsi c0_i32_157 v266
  let v268 : BitVec 32 := Scalar.minsi c36_i32_158 v267
  let v272 : BitVec 32 := Scalar.subi v268 v265
  let c1_i32_161 : BitVec 32 := 1#32
  let v274 : BitVec 32 := Scalar.divsi v272 c1_i32_161
  let v275 : BitVec 32 := Scalar.muli v274 c1_i32_161
  let v276 : BitVec 32 := Scalar.addi v265 v275
  let v273 : BitVec 32 := Scalar.addi v265 v272
  let c1_i32_163 : BitVec 32 := 1#32
  ⟨v276, v273, c1_i32_163⟩
def k0_off1074 (i : grid0.Coords) (k0_t88 : Fin (k0_t88_loop i).trips) : Fin 2 → Nat :=
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c36_i32_158 : BitVec 32 := 36#32
  let c0_i32_157 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c504_i32_156 : BitVec 32 := 504#32
  let v266 : BitVec 32 := Scalar.subi v38 c504_i32_156
  let v267 : BitVec 32 := Scalar.maxsi c0_i32_157 v266
  let v268 : BitVec 32 := Scalar.minsi c36_i32_158 v267
  let v272 : BitVec 32 := Scalar.subi v268 v265
  let c1_i32_161 : BitVec 32 := 1#32
  let v274 : BitVec 32 := Scalar.divsi v272 c1_i32_161
  let v275 : BitVec 32 := Scalar.muli v274 c1_i32_161
  let v276 : BitVec 32 := Scalar.addi v265 v275
  let c1_i32_163 : BitVec 32 := 1#32
  let arg34 : BitVec 32 := Scf.iv v276 c1_i32_163 k0_t88
  let c0_i32_287_r117 : BitVec 32 := 0#32
  ![arg34.toNat, 0]
@[reducible] def k0_t89_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1075 (k0_t89 : Fin k0_t89_loop.trips) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk929 (v464 : IVec S16 32) : Prop :=
  (∀ a x, ((![v464] : Fin 1 → IVec S16 32) a x).toNat < S100000.size a)
instance k0_chk929.dec : ∀ (v464 : IVec S16 32), Decidable (k0_chk929 v464) := fun v464 => decidable_of_iff' _ (Iff.of_eq (k0_chk929.eq_1 v464))
theorem k0_idx929_inb : ∀ (v464 : IVec S16 32) (k0_hw929 : k0_chk929 v464), ∀ a x, ((![v464] : Fin 1 → IVec S16 32) a x).toNat < S100000.size a := fun v464 k0_hw929 => k0_hw929
def k0_off1076 (k0_t89 : Fin k0_t89_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v466 : BitVec 32 := Scalar.addi v461 c0_i32_288
  let v467 : Index := Scalar.indexCast v466
  ![v467.toNat]

def k0_chk930 (v471 : IVec S16 32) : Prop :=
  (∀ a x, ((![v471] : Fin 1 → IVec S16 32) a x).toNat < S100000.size a)
instance k0_chk930.dec : ∀ (v471 : IVec S16 32), Decidable (k0_chk930 v471) := fun v471 => decidable_of_iff' _ (Iff.of_eq (k0_chk930.eq_1 v471))
theorem k0_idx930_inb : ∀ (v471 : IVec S16 32) (k0_hw930 : k0_chk930 v471), ∀ a x, ((![v471] : Fin 1 → IVec S16 32) a x).toNat < S100000.size a := fun v471 k0_hw930 => k0_hw930
def k0_off1077 (k0_t89 : Fin k0_t89_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v473 : BitVec 32 := Scalar.addi v461 c16_i32_289
  let v474 : Index := Scalar.indexCast v473
  ![v474.toNat]

def k0_chk931 (v478 : IVec S16 32) : Prop :=
  (∀ a x, ((![v478] : Fin 1 → IVec S16 32) a x).toNat < S100000.size a)
instance k0_chk931.dec : ∀ (v478 : IVec S16 32), Decidable (k0_chk931 v478) := fun v478 => decidable_of_iff' _ (Iff.of_eq (k0_chk931.eq_1 v478))
theorem k0_idx931_inb : ∀ (v478 : IVec S16 32) (k0_hw931 : k0_chk931 v478), ∀ a x, ((![v478] : Fin 1 → IVec S16 32) a x).toNat < S100000.size a := fun v478 k0_hw931 => k0_hw931
def k0_off1078 (k0_t89 : Fin k0_t89_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v480 : BitVec 32 := Scalar.addi v461 c32_i32_291
  let v481 : Index := Scalar.indexCast v480
  ![v481.toNat]

def k0_chk932 (v485 : IVec S16 32) : Prop :=
  (∀ a x, ((![v485] : Fin 1 → IVec S16 32) a x).toNat < S100000.size a)
instance k0_chk932.dec : ∀ (v485 : IVec S16 32), Decidable (k0_chk932 v485) := fun v485 => decidable_of_iff' _ (Iff.of_eq (k0_chk932.eq_1 v485))
theorem k0_idx932_inb : ∀ (v485 : IVec S16 32) (k0_hw932 : k0_chk932 v485), ∀ a x, ((![v485] : Fin 1 → IVec S16 32) a x).toNat < S100000.size a := fun v485 k0_hw932 => k0_hw932
def k0_off1079 (k0_t89 : Fin k0_t89_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v487 : BitVec 32 := Scalar.addi v461 c48_i32_292
  let v488 : Index := Scalar.indexCast v487
  ![v488.toNat]

def k0_chk933 (v492 : IVec S16 32) : Prop :=
  (∀ a x, ((![v492] : Fin 1 → IVec S16 32) a x).toNat < S100000.size a)
instance k0_chk933.dec : ∀ (v492 : IVec S16 32), Decidable (k0_chk933 v492) := fun v492 => decidable_of_iff' _ (Iff.of_eq (k0_chk933.eq_1 v492))
theorem k0_idx933_inb : ∀ (v492 : IVec S16 32) (k0_hw933 : k0_chk933 v492), ∀ a x, ((![v492] : Fin 1 → IVec S16 32) a x).toNat < S100000.size a := fun v492 k0_hw933 => k0_hw933
def k0_off1080 (k0_t89 : Fin k0_t89_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v494 : BitVec 32 := Scalar.addi v461 c64_i32_293
  let v495 : Index := Scalar.indexCast v494
  ![v495.toNat]

def k0_chk934 (v499 : IVec S16 32) : Prop :=
  (∀ a x, ((![v499] : Fin 1 → IVec S16 32) a x).toNat < S100000.size a)
instance k0_chk934.dec : ∀ (v499 : IVec S16 32), Decidable (k0_chk934 v499) := fun v499 => decidable_of_iff' _ (Iff.of_eq (k0_chk934.eq_1 v499))
theorem k0_idx934_inb : ∀ (v499 : IVec S16 32) (k0_hw934 : k0_chk934 v499), ∀ a x, ((![v499] : Fin 1 → IVec S16 32) a x).toNat < S100000.size a := fun v499 k0_hw934 => k0_hw934
def k0_off1081 (k0_t89 : Fin k0_t89_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v501 : BitVec 32 := Scalar.addi v461 c80_i32_294
  let v502 : Index := Scalar.indexCast v501
  ![v502.toNat]

def k0_chk935 (v506 : IVec S16 32) : Prop :=
  (∀ a x, ((![v506] : Fin 1 → IVec S16 32) a x).toNat < S100000.size a)
instance k0_chk935.dec : ∀ (v506 : IVec S16 32), Decidable (k0_chk935 v506) := fun v506 => decidable_of_iff' _ (Iff.of_eq (k0_chk935.eq_1 v506))
theorem k0_idx935_inb : ∀ (v506 : IVec S16 32) (k0_hw935 : k0_chk935 v506), ∀ a x, ((![v506] : Fin 1 → IVec S16 32) a x).toNat < S100000.size a := fun v506 k0_hw935 => k0_hw935
def k0_off1082 (k0_t89 : Fin k0_t89_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v508 : BitVec 32 := Scalar.addi v461 c96_i32_295
  let v509 : Index := Scalar.indexCast v508
  ![v509.toNat]

def k0_chk936 (v513 : IVec S16 32) : Prop :=
  (∀ a x, ((![v513] : Fin 1 → IVec S16 32) a x).toNat < S100000.size a)
instance k0_chk936.dec : ∀ (v513 : IVec S16 32), Decidable (k0_chk936 v513) := fun v513 => decidable_of_iff' _ (Iff.of_eq (k0_chk936.eq_1 v513))
theorem k0_idx936_inb : ∀ (v513 : IVec S16 32) (k0_hw936 : k0_chk936 v513), ∀ a x, ((![v513] : Fin 1 → IVec S16 32) a x).toNat < S100000.size a := fun v513 k0_hw936 => k0_hw936
def k0_off1083 (k0_t89 : Fin k0_t89_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v515 : BitVec 32 := Scalar.addi v461 c112_i32_296
  let v516 : Index := Scalar.indexCast v515
  ![v516.toNat]

def k0_chk937 (v520 : IVec S16 32) : Prop :=
  (∀ a x, ((![v520] : Fin 1 → IVec S16 32) a x).toNat < S100000.size a)
instance k0_chk937.dec : ∀ (v520 : IVec S16 32), Decidable (k0_chk937 v520) := fun v520 => decidable_of_iff' _ (Iff.of_eq (k0_chk937.eq_1 v520))
theorem k0_idx937_inb : ∀ (v520 : IVec S16 32) (k0_hw937 : k0_chk937 v520), ∀ a x, ((![v520] : Fin 1 → IVec S16 32) a x).toNat < S100000.size a := fun v520 k0_hw937 => k0_hw937
def k0_off1084 (k0_t89 : Fin k0_t89_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v522 : BitVec 32 := Scalar.addi v461 c128_i32_297
  let v523 : Index := Scalar.indexCast v522
  ![v523.toNat]

def k0_chk938 (v527 : IVec S16 32) : Prop :=
  (∀ a x, ((![v527] : Fin 1 → IVec S16 32) a x).toNat < S100000.size a)
instance k0_chk938.dec : ∀ (v527 : IVec S16 32), Decidable (k0_chk938 v527) := fun v527 => decidable_of_iff' _ (Iff.of_eq (k0_chk938.eq_1 v527))
theorem k0_idx938_inb : ∀ (v527 : IVec S16 32) (k0_hw938 : k0_chk938 v527), ∀ a x, ((![v527] : Fin 1 → IVec S16 32) a x).toNat < S100000.size a := fun v527 k0_hw938 => k0_hw938
def k0_off1085 (k0_t89 : Fin k0_t89_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v529 : BitVec 32 := Scalar.addi v461 c144_i32_299
  let v530 : Index := Scalar.indexCast v529
  ![v530.toNat]

def k0_chk939 (v534 : IVec S16 32) : Prop :=
  (∀ a x, ((![v534] : Fin 1 → IVec S16 32) a x).toNat < S100000.size a)
instance k0_chk939.dec : ∀ (v534 : IVec S16 32), Decidable (k0_chk939 v534) := fun v534 => decidable_of_iff' _ (Iff.of_eq (k0_chk939.eq_1 v534))
theorem k0_idx939_inb : ∀ (v534 : IVec S16 32) (k0_hw939 : k0_chk939 v534), ∀ a x, ((![v534] : Fin 1 → IVec S16 32) a x).toNat < S100000.size a := fun v534 k0_hw939 => k0_hw939
def k0_off1086 (k0_t89 : Fin k0_t89_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v536 : BitVec 32 := Scalar.addi v461 c160_i32_300
  let v537 : Index := Scalar.indexCast v536
  ![v537.toNat]

def k0_chk940 (v541 : IVec S16 32) : Prop :=
  (∀ a x, ((![v541] : Fin 1 → IVec S16 32) a x).toNat < S100000.size a)
instance k0_chk940.dec : ∀ (v541 : IVec S16 32), Decidable (k0_chk940 v541) := fun v541 => decidable_of_iff' _ (Iff.of_eq (k0_chk940.eq_1 v541))
theorem k0_idx940_inb : ∀ (v541 : IVec S16 32) (k0_hw940 : k0_chk940 v541), ∀ a x, ((![v541] : Fin 1 → IVec S16 32) a x).toNat < S100000.size a := fun v541 k0_hw940 => k0_hw940
def k0_off1087 (k0_t89 : Fin k0_t89_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v543 : BitVec 32 := Scalar.addi v461 c176_i32_301
  let v544 : Index := Scalar.indexCast v543
  ![v544.toNat]

def k0_chk941 (v548 : IVec S16 32) : Prop :=
  (∀ a x, ((![v548] : Fin 1 → IVec S16 32) a x).toNat < S100000.size a)
instance k0_chk941.dec : ∀ (v548 : IVec S16 32), Decidable (k0_chk941 v548) := fun v548 => decidable_of_iff' _ (Iff.of_eq (k0_chk941.eq_1 v548))
theorem k0_idx941_inb : ∀ (v548 : IVec S16 32) (k0_hw941 : k0_chk941 v548), ∀ a x, ((![v548] : Fin 1 → IVec S16 32) a x).toNat < S100000.size a := fun v548 k0_hw941 => k0_hw941
def k0_off1088 (k0_t89 : Fin k0_t89_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v550 : BitVec 32 := Scalar.addi v461 c192_i32_302
  let v551 : Index := Scalar.indexCast v550
  ![v551.toNat]

def k0_chk942 (v555 : IVec S16 32) : Prop :=
  (∀ a x, ((![v555] : Fin 1 → IVec S16 32) a x).toNat < S100000.size a)
instance k0_chk942.dec : ∀ (v555 : IVec S16 32), Decidable (k0_chk942 v555) := fun v555 => decidable_of_iff' _ (Iff.of_eq (k0_chk942.eq_1 v555))
theorem k0_idx942_inb : ∀ (v555 : IVec S16 32) (k0_hw942 : k0_chk942 v555), ∀ a x, ((![v555] : Fin 1 → IVec S16 32) a x).toNat < S100000.size a := fun v555 k0_hw942 => k0_hw942
def k0_off1089 (k0_t89 : Fin k0_t89_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v557 : BitVec 32 := Scalar.addi v461 c208_i32_303
  let v558 : Index := Scalar.indexCast v557
  ![v558.toNat]

def k0_chk943 (v562 : IVec S16 32) : Prop :=
  (∀ a x, ((![v562] : Fin 1 → IVec S16 32) a x).toNat < S100000.size a)
instance k0_chk943.dec : ∀ (v562 : IVec S16 32), Decidable (k0_chk943 v562) := fun v562 => decidable_of_iff' _ (Iff.of_eq (k0_chk943.eq_1 v562))
theorem k0_idx943_inb : ∀ (v562 : IVec S16 32) (k0_hw943 : k0_chk943 v562), ∀ a x, ((![v562] : Fin 1 → IVec S16 32) a x).toNat < S100000.size a := fun v562 k0_hw943 => k0_hw943
def k0_off1090 (k0_t89 : Fin k0_t89_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let v564 : BitVec 32 := Scalar.addi v461 c224_i32_304
  let v565 : Index := Scalar.indexCast v564
  ![v565.toNat]

def k0_chk944 (v569 : IVec S16 32) : Prop :=
  (∀ a x, ((![v569] : Fin 1 → IVec S16 32) a x).toNat < S100000.size a)
instance k0_chk944.dec : ∀ (v569 : IVec S16 32), Decidable (k0_chk944 v569) := fun v569 => decidable_of_iff' _ (Iff.of_eq (k0_chk944.eq_1 v569))
theorem k0_idx944_inb : ∀ (v569 : IVec S16 32) (k0_hw944 : k0_chk944 v569), ∀ a x, ((![v569] : Fin 1 → IVec S16 32) a x).toNat < S100000.size a := fun v569 k0_hw944 => k0_hw944
def k0_off1091 (k0_t89 : Fin k0_t89_loop.trips) : Fin 1 → Nat :=
  let c0_i32_275 : BitVec 32 := 0#32
  let c1_i32_277 : BitVec 32 := 1#32
  let arg36 : BitVec 32 := Scf.iv c0_i32_275 c1_i32_277 k0_t89
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1092 (i : grid0.Coords) (k0_t88 : Fin (k0_t88_loop i).trips) : Fin 2 → Nat :=
  let c504_i32_279 : BitVec 32 := 504#32
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c36_i32_158 : BitVec 32 := 36#32
  let c0_i32_157 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c504_i32_156 : BitVec 32 := 504#32
  let v266 : BitVec 32 := Scalar.subi v38 c504_i32_156
  let v267 : BitVec 32 := Scalar.maxsi c0_i32_157 v266
  let v268 : BitVec 32 := Scalar.minsi c36_i32_158 v267
  let v272 : BitVec 32 := Scalar.subi v268 v265
  let c1_i32_161 : BitVec 32 := 1#32
  let v274 : BitVec 32 := Scalar.divsi v272 c1_i32_161
  let v275 : BitVec 32 := Scalar.muli v274 c1_i32_161
  let v276 : BitVec 32 := Scalar.addi v265 v275
  let c1_i32_163 : BitVec 32 := 1#32
  let arg34 : BitVec 32 := Scf.iv v276 c1_i32_163 k0_t88
  let v457 : BitVec 32 := Scalar.addi c504_i32_279 arg34
  let c0_i32_287_r118 : BitVec 32 := 0#32
  ![v457.toNat, 0]
@[reducible] def k0_t90_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1093 (k0_t90 : Fin k0_t90_loop.trips) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk945 (v464 : IVec S16 32) : Prop :=
  (∀ a x, ((![v464] : Fin 1 → IVec S16 32) a x).toNat < S100000.size a)
instance k0_chk945.dec : ∀ (v464 : IVec S16 32), Decidable (k0_chk945 v464) := fun v464 => decidable_of_iff' _ (Iff.of_eq (k0_chk945.eq_1 v464))
theorem k0_idx945_inb : ∀ (v464 : IVec S16 32) (k0_hw945 : k0_chk945 v464), ∀ a x, ((![v464] : Fin 1 → IVec S16 32) a x).toNat < S100000.size a := fun v464 k0_hw945 => k0_hw945
def k0_off1094 (k0_t90 : Fin k0_t90_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v466 : BitVec 32 := Scalar.addi v461 c0_i32_288
  let v467 : Index := Scalar.indexCast v466
  ![v467.toNat]

def k0_chk946 (v471 : IVec S16 32) : Prop :=
  (∀ a x, ((![v471] : Fin 1 → IVec S16 32) a x).toNat < S100000.size a)
instance k0_chk946.dec : ∀ (v471 : IVec S16 32), Decidable (k0_chk946 v471) := fun v471 => decidable_of_iff' _ (Iff.of_eq (k0_chk946.eq_1 v471))
theorem k0_idx946_inb : ∀ (v471 : IVec S16 32) (k0_hw946 : k0_chk946 v471), ∀ a x, ((![v471] : Fin 1 → IVec S16 32) a x).toNat < S100000.size a := fun v471 k0_hw946 => k0_hw946
def k0_off1095 (k0_t90 : Fin k0_t90_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v473 : BitVec 32 := Scalar.addi v461 c16_i32_289
  let v474 : Index := Scalar.indexCast v473
  ![v474.toNat]

def k0_chk947 (v478 : IVec S16 32) : Prop :=
  (∀ a x, ((![v478] : Fin 1 → IVec S16 32) a x).toNat < S100000.size a)
instance k0_chk947.dec : ∀ (v478 : IVec S16 32), Decidable (k0_chk947 v478) := fun v478 => decidable_of_iff' _ (Iff.of_eq (k0_chk947.eq_1 v478))
theorem k0_idx947_inb : ∀ (v478 : IVec S16 32) (k0_hw947 : k0_chk947 v478), ∀ a x, ((![v478] : Fin 1 → IVec S16 32) a x).toNat < S100000.size a := fun v478 k0_hw947 => k0_hw947
def k0_off1096 (k0_t90 : Fin k0_t90_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v480 : BitVec 32 := Scalar.addi v461 c32_i32_291
  let v481 : Index := Scalar.indexCast v480
  ![v481.toNat]

def k0_chk948 (v485 : IVec S16 32) : Prop :=
  (∀ a x, ((![v485] : Fin 1 → IVec S16 32) a x).toNat < S100000.size a)
instance k0_chk948.dec : ∀ (v485 : IVec S16 32), Decidable (k0_chk948 v485) := fun v485 => decidable_of_iff' _ (Iff.of_eq (k0_chk948.eq_1 v485))
theorem k0_idx948_inb : ∀ (v485 : IVec S16 32) (k0_hw948 : k0_chk948 v485), ∀ a x, ((![v485] : Fin 1 → IVec S16 32) a x).toNat < S100000.size a := fun v485 k0_hw948 => k0_hw948
def k0_off1097 (k0_t90 : Fin k0_t90_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v487 : BitVec 32 := Scalar.addi v461 c48_i32_292
  let v488 : Index := Scalar.indexCast v487
  ![v488.toNat]

def k0_chk949 (v492 : IVec S16 32) : Prop :=
  (∀ a x, ((![v492] : Fin 1 → IVec S16 32) a x).toNat < S100000.size a)
instance k0_chk949.dec : ∀ (v492 : IVec S16 32), Decidable (k0_chk949 v492) := fun v492 => decidable_of_iff' _ (Iff.of_eq (k0_chk949.eq_1 v492))
theorem k0_idx949_inb : ∀ (v492 : IVec S16 32) (k0_hw949 : k0_chk949 v492), ∀ a x, ((![v492] : Fin 1 → IVec S16 32) a x).toNat < S100000.size a := fun v492 k0_hw949 => k0_hw949
def k0_off1098 (k0_t90 : Fin k0_t90_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v494 : BitVec 32 := Scalar.addi v461 c64_i32_293
  let v495 : Index := Scalar.indexCast v494
  ![v495.toNat]

def k0_chk950 (v499 : IVec S16 32) : Prop :=
  (∀ a x, ((![v499] : Fin 1 → IVec S16 32) a x).toNat < S100000.size a)
instance k0_chk950.dec : ∀ (v499 : IVec S16 32), Decidable (k0_chk950 v499) := fun v499 => decidable_of_iff' _ (Iff.of_eq (k0_chk950.eq_1 v499))
theorem k0_idx950_inb : ∀ (v499 : IVec S16 32) (k0_hw950 : k0_chk950 v499), ∀ a x, ((![v499] : Fin 1 → IVec S16 32) a x).toNat < S100000.size a := fun v499 k0_hw950 => k0_hw950
def k0_off1099 (k0_t90 : Fin k0_t90_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v501 : BitVec 32 := Scalar.addi v461 c80_i32_294
  let v502 : Index := Scalar.indexCast v501
  ![v502.toNat]

def k0_chk951 (v506 : IVec S16 32) : Prop :=
  (∀ a x, ((![v506] : Fin 1 → IVec S16 32) a x).toNat < S100000.size a)
instance k0_chk951.dec : ∀ (v506 : IVec S16 32), Decidable (k0_chk951 v506) := fun v506 => decidable_of_iff' _ (Iff.of_eq (k0_chk951.eq_1 v506))
theorem k0_idx951_inb : ∀ (v506 : IVec S16 32) (k0_hw951 : k0_chk951 v506), ∀ a x, ((![v506] : Fin 1 → IVec S16 32) a x).toNat < S100000.size a := fun v506 k0_hw951 => k0_hw951
def k0_off1100 (k0_t90 : Fin k0_t90_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v508 : BitVec 32 := Scalar.addi v461 c96_i32_295
  let v509 : Index := Scalar.indexCast v508
  ![v509.toNat]

def k0_chk952 (v513 : IVec S16 32) : Prop :=
  (∀ a x, ((![v513] : Fin 1 → IVec S16 32) a x).toNat < S100000.size a)
instance k0_chk952.dec : ∀ (v513 : IVec S16 32), Decidable (k0_chk952 v513) := fun v513 => decidable_of_iff' _ (Iff.of_eq (k0_chk952.eq_1 v513))
theorem k0_idx952_inb : ∀ (v513 : IVec S16 32) (k0_hw952 : k0_chk952 v513), ∀ a x, ((![v513] : Fin 1 → IVec S16 32) a x).toNat < S100000.size a := fun v513 k0_hw952 => k0_hw952
def k0_off1101 (k0_t90 : Fin k0_t90_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v515 : BitVec 32 := Scalar.addi v461 c112_i32_296
  let v516 : Index := Scalar.indexCast v515
  ![v516.toNat]

def k0_chk953 (v520 : IVec S16 32) : Prop :=
  (∀ a x, ((![v520] : Fin 1 → IVec S16 32) a x).toNat < S100000.size a)
instance k0_chk953.dec : ∀ (v520 : IVec S16 32), Decidable (k0_chk953 v520) := fun v520 => decidable_of_iff' _ (Iff.of_eq (k0_chk953.eq_1 v520))
theorem k0_idx953_inb : ∀ (v520 : IVec S16 32) (k0_hw953 : k0_chk953 v520), ∀ a x, ((![v520] : Fin 1 → IVec S16 32) a x).toNat < S100000.size a := fun v520 k0_hw953 => k0_hw953
def k0_off1102 (k0_t90 : Fin k0_t90_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v522 : BitVec 32 := Scalar.addi v461 c128_i32_297
  let v523 : Index := Scalar.indexCast v522
  ![v523.toNat]

def k0_chk954 (v527 : IVec S16 32) : Prop :=
  (∀ a x, ((![v527] : Fin 1 → IVec S16 32) a x).toNat < S100000.size a)
instance k0_chk954.dec : ∀ (v527 : IVec S16 32), Decidable (k0_chk954 v527) := fun v527 => decidable_of_iff' _ (Iff.of_eq (k0_chk954.eq_1 v527))
theorem k0_idx954_inb : ∀ (v527 : IVec S16 32) (k0_hw954 : k0_chk954 v527), ∀ a x, ((![v527] : Fin 1 → IVec S16 32) a x).toNat < S100000.size a := fun v527 k0_hw954 => k0_hw954
def k0_off1103 (k0_t90 : Fin k0_t90_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v529 : BitVec 32 := Scalar.addi v461 c144_i32_299
  let v530 : Index := Scalar.indexCast v529
  ![v530.toNat]

def k0_chk955 (v534 : IVec S16 32) : Prop :=
  (∀ a x, ((![v534] : Fin 1 → IVec S16 32) a x).toNat < S100000.size a)
instance k0_chk955.dec : ∀ (v534 : IVec S16 32), Decidable (k0_chk955 v534) := fun v534 => decidable_of_iff' _ (Iff.of_eq (k0_chk955.eq_1 v534))
theorem k0_idx955_inb : ∀ (v534 : IVec S16 32) (k0_hw955 : k0_chk955 v534), ∀ a x, ((![v534] : Fin 1 → IVec S16 32) a x).toNat < S100000.size a := fun v534 k0_hw955 => k0_hw955
def k0_off1104 (k0_t90 : Fin k0_t90_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v536 : BitVec 32 := Scalar.addi v461 c160_i32_300
  let v537 : Index := Scalar.indexCast v536
  ![v537.toNat]

def k0_chk956 (v541 : IVec S16 32) : Prop :=
  (∀ a x, ((![v541] : Fin 1 → IVec S16 32) a x).toNat < S100000.size a)
instance k0_chk956.dec : ∀ (v541 : IVec S16 32), Decidable (k0_chk956 v541) := fun v541 => decidable_of_iff' _ (Iff.of_eq (k0_chk956.eq_1 v541))
theorem k0_idx956_inb : ∀ (v541 : IVec S16 32) (k0_hw956 : k0_chk956 v541), ∀ a x, ((![v541] : Fin 1 → IVec S16 32) a x).toNat < S100000.size a := fun v541 k0_hw956 => k0_hw956
def k0_off1105 (k0_t90 : Fin k0_t90_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v543 : BitVec 32 := Scalar.addi v461 c176_i32_301
  let v544 : Index := Scalar.indexCast v543
  ![v544.toNat]

def k0_chk957 (v548 : IVec S16 32) : Prop :=
  (∀ a x, ((![v548] : Fin 1 → IVec S16 32) a x).toNat < S100000.size a)
instance k0_chk957.dec : ∀ (v548 : IVec S16 32), Decidable (k0_chk957 v548) := fun v548 => decidable_of_iff' _ (Iff.of_eq (k0_chk957.eq_1 v548))
theorem k0_idx957_inb : ∀ (v548 : IVec S16 32) (k0_hw957 : k0_chk957 v548), ∀ a x, ((![v548] : Fin 1 → IVec S16 32) a x).toNat < S100000.size a := fun v548 k0_hw957 => k0_hw957
def k0_off1106 (k0_t90 : Fin k0_t90_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v550 : BitVec 32 := Scalar.addi v461 c192_i32_302
  let v551 : Index := Scalar.indexCast v550
  ![v551.toNat]

def k0_chk958 (v555 : IVec S16 32) : Prop :=
  (∀ a x, ((![v555] : Fin 1 → IVec S16 32) a x).toNat < S100000.size a)
instance k0_chk958.dec : ∀ (v555 : IVec S16 32), Decidable (k0_chk958 v555) := fun v555 => decidable_of_iff' _ (Iff.of_eq (k0_chk958.eq_1 v555))
theorem k0_idx958_inb : ∀ (v555 : IVec S16 32) (k0_hw958 : k0_chk958 v555), ∀ a x, ((![v555] : Fin 1 → IVec S16 32) a x).toNat < S100000.size a := fun v555 k0_hw958 => k0_hw958
def k0_off1107 (k0_t90 : Fin k0_t90_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v557 : BitVec 32 := Scalar.addi v461 c208_i32_303
  let v558 : Index := Scalar.indexCast v557
  ![v558.toNat]

def k0_chk959 (v562 : IVec S16 32) : Prop :=
  (∀ a x, ((![v562] : Fin 1 → IVec S16 32) a x).toNat < S100000.size a)
instance k0_chk959.dec : ∀ (v562 : IVec S16 32), Decidable (k0_chk959 v562) := fun v562 => decidable_of_iff' _ (Iff.of_eq (k0_chk959.eq_1 v562))
theorem k0_idx959_inb : ∀ (v562 : IVec S16 32) (k0_hw959 : k0_chk959 v562), ∀ a x, ((![v562] : Fin 1 → IVec S16 32) a x).toNat < S100000.size a := fun v562 k0_hw959 => k0_hw959
def k0_off1108 (k0_t90 : Fin k0_t90_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let v564 : BitVec 32 := Scalar.addi v461 c224_i32_304
  let v565 : Index := Scalar.indexCast v564
  ![v565.toNat]

def k0_chk960 (v569 : IVec S16 32) : Prop :=
  (∀ a x, ((![v569] : Fin 1 → IVec S16 32) a x).toNat < S100000.size a)
instance k0_chk960.dec : ∀ (v569 : IVec S16 32), Decidable (k0_chk960 v569) := fun v569 => decidable_of_iff' _ (Iff.of_eq (k0_chk960.eq_1 v569))
theorem k0_idx960_inb : ∀ (v569 : IVec S16 32) (k0_hw960 : k0_chk960 v569), ∀ a x, ((![v569] : Fin 1 → IVec S16 32) a x).toNat < S100000.size a := fun v569 k0_hw960 => k0_hw960
def k0_off1109 (k0_t90 : Fin k0_t90_loop.trips) : Fin 1 → Nat :=
  let c0_i32_281 : BitVec 32 := 0#32
  let c1_i32_283 : BitVec 32 := 1#32
  let arg36 : BitVec 32 := Scf.iv c0_i32_281 c1_i32_283 k0_t90
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1110 (i : grid0.Coords) (k0_t88 : Fin (k0_t88_loop i).trips) : Fin 2 → Nat :=
  let c504_i32_285 : BitVec 32 := 504#32
  let c36_i32_155 : BitVec 32 := 36#32
  let c0_i32_154 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c504_i32 : BitVec 32 := 504#32
  let v263 : BitVec 32 := Scalar.subi v19 c504_i32
  let v264 : BitVec 32 := Scalar.maxsi c0_i32_154 v263
  let v265 : BitVec 32 := Scalar.minsi c36_i32_155 v264
  let c36_i32_158 : BitVec 32 := 36#32
  let c0_i32_157 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c504_i32_156 : BitVec 32 := 504#32
  let v266 : BitVec 32 := Scalar.subi v38 c504_i32_156
  let v267 : BitVec 32 := Scalar.maxsi c0_i32_157 v266
  let v268 : BitVec 32 := Scalar.minsi c36_i32_158 v267
  let v272 : BitVec 32 := Scalar.subi v268 v265
  let c1_i32_161 : BitVec 32 := 1#32
  let v274 : BitVec 32 := Scalar.divsi v272 c1_i32_161
  let v275 : BitVec 32 := Scalar.muli v274 c1_i32_161
  let v276 : BitVec 32 := Scalar.addi v265 v275
  let c1_i32_163 : BitVec 32 := 1#32
  let arg34 : BitVec 32 := Scf.iv v276 c1_i32_163 k0_t88
  let v460 : BitVec 32 := Scalar.addi c504_i32_285 arg34
  let c8192_i32_r119 : BitVec 32 := 8192#32
  ![v460.toNat, 8192]
@[reducible] def k0_t91_loop (i : grid0.Coords) : Scf.Loop 32 :=
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c36_i32_168 : BitVec 32 := 36#32
  let c0_i32_167 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c540_i32_166 : BitVec 32 := 540#32
  let v282 : BitVec 32 := Scalar.subi v38 c540_i32_166
  let v283 : BitVec 32 := Scalar.maxsi c0_i32_167 v282
  let v284 : BitVec 32 := Scalar.minsi c36_i32_168 v283
  let v288 : BitVec 32 := Scalar.subi v284 v281
  let c1_i32_171 : BitVec 32 := 1#32
  let v290 : BitVec 32 := Scalar.divsi v288 c1_i32_171
  let v291 : BitVec 32 := Scalar.muli v290 c1_i32_171
  let v292 : BitVec 32 := Scalar.addi v281 v291
  let c1_i32_172 : BitVec 32 := 1#32
  ⟨v281, v292, c1_i32_172⟩
def k0_off1111 (i : grid0.Coords) (k0_t91 : Fin (k0_t91_loop i).trips) : Fin 2 → Nat :=
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c1_i32_172 : BitVec 32 := 1#32
  let arg34 : BitVec 32 := Scf.iv v281 c1_i32_172 k0_t91
  let c0_i32_287_r122 : BitVec 32 := 0#32
  ![arg34.toNat, 0]
@[reducible] def k0_t92_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1112 (k0_t92 : Fin k0_t92_loop.trips) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk961 (v464 : IVec S16 32) : Prop :=
  (∀ a x, ((![v464] : Fin 1 → IVec S16 32) a x).toNat < S100000.size a)
instance k0_chk961.dec : ∀ (v464 : IVec S16 32), Decidable (k0_chk961 v464) := fun v464 => decidable_of_iff' _ (Iff.of_eq (k0_chk961.eq_1 v464))
theorem k0_idx961_inb : ∀ (v464 : IVec S16 32) (k0_hw961 : k0_chk961 v464), ∀ a x, ((![v464] : Fin 1 → IVec S16 32) a x).toNat < S100000.size a := fun v464 k0_hw961 => k0_hw961
def k0_off1113 (k0_t92 : Fin k0_t92_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v466 : BitVec 32 := Scalar.addi v461 c0_i32_288
  let v467 : Index := Scalar.indexCast v466
  ![v467.toNat]

def k0_chk962 (v471 : IVec S16 32) : Prop :=
  (∀ a x, ((![v471] : Fin 1 → IVec S16 32) a x).toNat < S100000.size a)
instance k0_chk962.dec : ∀ (v471 : IVec S16 32), Decidable (k0_chk962 v471) := fun v471 => decidable_of_iff' _ (Iff.of_eq (k0_chk962.eq_1 v471))
theorem k0_idx962_inb : ∀ (v471 : IVec S16 32) (k0_hw962 : k0_chk962 v471), ∀ a x, ((![v471] : Fin 1 → IVec S16 32) a x).toNat < S100000.size a := fun v471 k0_hw962 => k0_hw962
def k0_off1114 (k0_t92 : Fin k0_t92_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v473 : BitVec 32 := Scalar.addi v461 c16_i32_289
  let v474 : Index := Scalar.indexCast v473
  ![v474.toNat]

def k0_chk963 (v478 : IVec S16 32) : Prop :=
  (∀ a x, ((![v478] : Fin 1 → IVec S16 32) a x).toNat < S100000.size a)
instance k0_chk963.dec : ∀ (v478 : IVec S16 32), Decidable (k0_chk963 v478) := fun v478 => decidable_of_iff' _ (Iff.of_eq (k0_chk963.eq_1 v478))
theorem k0_idx963_inb : ∀ (v478 : IVec S16 32) (k0_hw963 : k0_chk963 v478), ∀ a x, ((![v478] : Fin 1 → IVec S16 32) a x).toNat < S100000.size a := fun v478 k0_hw963 => k0_hw963
def k0_off1115 (k0_t92 : Fin k0_t92_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v480 : BitVec 32 := Scalar.addi v461 c32_i32_291
  let v481 : Index := Scalar.indexCast v480
  ![v481.toNat]

def k0_chk964 (v485 : IVec S16 32) : Prop :=
  (∀ a x, ((![v485] : Fin 1 → IVec S16 32) a x).toNat < S100000.size a)
instance k0_chk964.dec : ∀ (v485 : IVec S16 32), Decidable (k0_chk964 v485) := fun v485 => decidable_of_iff' _ (Iff.of_eq (k0_chk964.eq_1 v485))
theorem k0_idx964_inb : ∀ (v485 : IVec S16 32) (k0_hw964 : k0_chk964 v485), ∀ a x, ((![v485] : Fin 1 → IVec S16 32) a x).toNat < S100000.size a := fun v485 k0_hw964 => k0_hw964
def k0_off1116 (k0_t92 : Fin k0_t92_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v487 : BitVec 32 := Scalar.addi v461 c48_i32_292
  let v488 : Index := Scalar.indexCast v487
  ![v488.toNat]

def k0_chk965 (v492 : IVec S16 32) : Prop :=
  (∀ a x, ((![v492] : Fin 1 → IVec S16 32) a x).toNat < S100000.size a)
instance k0_chk965.dec : ∀ (v492 : IVec S16 32), Decidable (k0_chk965 v492) := fun v492 => decidable_of_iff' _ (Iff.of_eq (k0_chk965.eq_1 v492))
theorem k0_idx965_inb : ∀ (v492 : IVec S16 32) (k0_hw965 : k0_chk965 v492), ∀ a x, ((![v492] : Fin 1 → IVec S16 32) a x).toNat < S100000.size a := fun v492 k0_hw965 => k0_hw965
def k0_off1117 (k0_t92 : Fin k0_t92_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v494 : BitVec 32 := Scalar.addi v461 c64_i32_293
  let v495 : Index := Scalar.indexCast v494
  ![v495.toNat]

def k0_chk966 (v499 : IVec S16 32) : Prop :=
  (∀ a x, ((![v499] : Fin 1 → IVec S16 32) a x).toNat < S100000.size a)
instance k0_chk966.dec : ∀ (v499 : IVec S16 32), Decidable (k0_chk966 v499) := fun v499 => decidable_of_iff' _ (Iff.of_eq (k0_chk966.eq_1 v499))
theorem k0_idx966_inb : ∀ (v499 : IVec S16 32) (k0_hw966 : k0_chk966 v499), ∀ a x, ((![v499] : Fin 1 → IVec S16 32) a x).toNat < S100000.size a := fun v499 k0_hw966 => k0_hw966
def k0_off1118 (k0_t92 : Fin k0_t92_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v501 : BitVec 32 := Scalar.addi v461 c80_i32_294
  let v502 : Index := Scalar.indexCast v501
  ![v502.toNat]

def k0_chk967 (v506 : IVec S16 32) : Prop :=
  (∀ a x, ((![v506] : Fin 1 → IVec S16 32) a x).toNat < S100000.size a)
instance k0_chk967.dec : ∀ (v506 : IVec S16 32), Decidable (k0_chk967 v506) := fun v506 => decidable_of_iff' _ (Iff.of_eq (k0_chk967.eq_1 v506))
theorem k0_idx967_inb : ∀ (v506 : IVec S16 32) (k0_hw967 : k0_chk967 v506), ∀ a x, ((![v506] : Fin 1 → IVec S16 32) a x).toNat < S100000.size a := fun v506 k0_hw967 => k0_hw967
def k0_off1119 (k0_t92 : Fin k0_t92_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v508 : BitVec 32 := Scalar.addi v461 c96_i32_295
  let v509 : Index := Scalar.indexCast v508
  ![v509.toNat]

def k0_chk968 (v513 : IVec S16 32) : Prop :=
  (∀ a x, ((![v513] : Fin 1 → IVec S16 32) a x).toNat < S100000.size a)
instance k0_chk968.dec : ∀ (v513 : IVec S16 32), Decidable (k0_chk968 v513) := fun v513 => decidable_of_iff' _ (Iff.of_eq (k0_chk968.eq_1 v513))
theorem k0_idx968_inb : ∀ (v513 : IVec S16 32) (k0_hw968 : k0_chk968 v513), ∀ a x, ((![v513] : Fin 1 → IVec S16 32) a x).toNat < S100000.size a := fun v513 k0_hw968 => k0_hw968
def k0_off1120 (k0_t92 : Fin k0_t92_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v515 : BitVec 32 := Scalar.addi v461 c112_i32_296
  let v516 : Index := Scalar.indexCast v515
  ![v516.toNat]

def k0_chk969 (v520 : IVec S16 32) : Prop :=
  (∀ a x, ((![v520] : Fin 1 → IVec S16 32) a x).toNat < S100000.size a)
instance k0_chk969.dec : ∀ (v520 : IVec S16 32), Decidable (k0_chk969 v520) := fun v520 => decidable_of_iff' _ (Iff.of_eq (k0_chk969.eq_1 v520))
theorem k0_idx969_inb : ∀ (v520 : IVec S16 32) (k0_hw969 : k0_chk969 v520), ∀ a x, ((![v520] : Fin 1 → IVec S16 32) a x).toNat < S100000.size a := fun v520 k0_hw969 => k0_hw969
def k0_off1121 (k0_t92 : Fin k0_t92_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v522 : BitVec 32 := Scalar.addi v461 c128_i32_297
  let v523 : Index := Scalar.indexCast v522
  ![v523.toNat]

def k0_chk970 (v527 : IVec S16 32) : Prop :=
  (∀ a x, ((![v527] : Fin 1 → IVec S16 32) a x).toNat < S100000.size a)
instance k0_chk970.dec : ∀ (v527 : IVec S16 32), Decidable (k0_chk970 v527) := fun v527 => decidable_of_iff' _ (Iff.of_eq (k0_chk970.eq_1 v527))
theorem k0_idx970_inb : ∀ (v527 : IVec S16 32) (k0_hw970 : k0_chk970 v527), ∀ a x, ((![v527] : Fin 1 → IVec S16 32) a x).toNat < S100000.size a := fun v527 k0_hw970 => k0_hw970
def k0_off1122 (k0_t92 : Fin k0_t92_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v529 : BitVec 32 := Scalar.addi v461 c144_i32_299
  let v530 : Index := Scalar.indexCast v529
  ![v530.toNat]

def k0_chk971 (v534 : IVec S16 32) : Prop :=
  (∀ a x, ((![v534] : Fin 1 → IVec S16 32) a x).toNat < S100000.size a)
instance k0_chk971.dec : ∀ (v534 : IVec S16 32), Decidable (k0_chk971 v534) := fun v534 => decidable_of_iff' _ (Iff.of_eq (k0_chk971.eq_1 v534))
theorem k0_idx971_inb : ∀ (v534 : IVec S16 32) (k0_hw971 : k0_chk971 v534), ∀ a x, ((![v534] : Fin 1 → IVec S16 32) a x).toNat < S100000.size a := fun v534 k0_hw971 => k0_hw971
def k0_off1123 (k0_t92 : Fin k0_t92_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v536 : BitVec 32 := Scalar.addi v461 c160_i32_300
  let v537 : Index := Scalar.indexCast v536
  ![v537.toNat]

def k0_chk972 (v541 : IVec S16 32) : Prop :=
  (∀ a x, ((![v541] : Fin 1 → IVec S16 32) a x).toNat < S100000.size a)
instance k0_chk972.dec : ∀ (v541 : IVec S16 32), Decidable (k0_chk972 v541) := fun v541 => decidable_of_iff' _ (Iff.of_eq (k0_chk972.eq_1 v541))
theorem k0_idx972_inb : ∀ (v541 : IVec S16 32) (k0_hw972 : k0_chk972 v541), ∀ a x, ((![v541] : Fin 1 → IVec S16 32) a x).toNat < S100000.size a := fun v541 k0_hw972 => k0_hw972
def k0_off1124 (k0_t92 : Fin k0_t92_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v543 : BitVec 32 := Scalar.addi v461 c176_i32_301
  let v544 : Index := Scalar.indexCast v543
  ![v544.toNat]

def k0_chk973 (v548 : IVec S16 32) : Prop :=
  (∀ a x, ((![v548] : Fin 1 → IVec S16 32) a x).toNat < S100000.size a)
instance k0_chk973.dec : ∀ (v548 : IVec S16 32), Decidable (k0_chk973 v548) := fun v548 => decidable_of_iff' _ (Iff.of_eq (k0_chk973.eq_1 v548))
theorem k0_idx973_inb : ∀ (v548 : IVec S16 32) (k0_hw973 : k0_chk973 v548), ∀ a x, ((![v548] : Fin 1 → IVec S16 32) a x).toNat < S100000.size a := fun v548 k0_hw973 => k0_hw973
def k0_off1125 (k0_t92 : Fin k0_t92_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v550 : BitVec 32 := Scalar.addi v461 c192_i32_302
  let v551 : Index := Scalar.indexCast v550
  ![v551.toNat]

def k0_chk974 (v555 : IVec S16 32) : Prop :=
  (∀ a x, ((![v555] : Fin 1 → IVec S16 32) a x).toNat < S100000.size a)
instance k0_chk974.dec : ∀ (v555 : IVec S16 32), Decidable (k0_chk974 v555) := fun v555 => decidable_of_iff' _ (Iff.of_eq (k0_chk974.eq_1 v555))
theorem k0_idx974_inb : ∀ (v555 : IVec S16 32) (k0_hw974 : k0_chk974 v555), ∀ a x, ((![v555] : Fin 1 → IVec S16 32) a x).toNat < S100000.size a := fun v555 k0_hw974 => k0_hw974
def k0_off1126 (k0_t92 : Fin k0_t92_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v557 : BitVec 32 := Scalar.addi v461 c208_i32_303
  let v558 : Index := Scalar.indexCast v557
  ![v558.toNat]

def k0_chk975 (v562 : IVec S16 32) : Prop :=
  (∀ a x, ((![v562] : Fin 1 → IVec S16 32) a x).toNat < S100000.size a)
instance k0_chk975.dec : ∀ (v562 : IVec S16 32), Decidable (k0_chk975 v562) := fun v562 => decidable_of_iff' _ (Iff.of_eq (k0_chk975.eq_1 v562))
theorem k0_idx975_inb : ∀ (v562 : IVec S16 32) (k0_hw975 : k0_chk975 v562), ∀ a x, ((![v562] : Fin 1 → IVec S16 32) a x).toNat < S100000.size a := fun v562 k0_hw975 => k0_hw975
def k0_off1127 (k0_t92 : Fin k0_t92_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let v564 : BitVec 32 := Scalar.addi v461 c224_i32_304
  let v565 : Index := Scalar.indexCast v564
  ![v565.toNat]

def k0_chk976 (v569 : IVec S16 32) : Prop :=
  (∀ a x, ((![v569] : Fin 1 → IVec S16 32) a x).toNat < S100000.size a)
instance k0_chk976.dec : ∀ (v569 : IVec S16 32), Decidable (k0_chk976 v569) := fun v569 => decidable_of_iff' _ (Iff.of_eq (k0_chk976.eq_1 v569))
theorem k0_idx976_inb : ∀ (v569 : IVec S16 32) (k0_hw976 : k0_chk976 v569), ∀ a x, ((![v569] : Fin 1 → IVec S16 32) a x).toNat < S100000.size a := fun v569 k0_hw976 => k0_hw976
def k0_off1128 (k0_t92 : Fin k0_t92_loop.trips) : Fin 1 → Nat :=
  let c0_i32_275 : BitVec 32 := 0#32
  let c1_i32_277 : BitVec 32 := 1#32
  let arg36 : BitVec 32 := Scf.iv c0_i32_275 c1_i32_277 k0_t92
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1129 (i : grid0.Coords) (k0_t91 : Fin (k0_t91_loop i).trips) : Fin 2 → Nat :=
  let c540_i32_279 : BitVec 32 := 540#32
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c1_i32_172 : BitVec 32 := 1#32
  let arg34 : BitVec 32 := Scf.iv v281 c1_i32_172 k0_t91
  let v457 : BitVec 32 := Scalar.addi c540_i32_279 arg34
  let c0_i32_287_r123 : BitVec 32 := 0#32
  ![v457.toNat, 0]
@[reducible] def k0_t93_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1130 (k0_t93 : Fin k0_t93_loop.trips) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk977 (v464 : IVec S16 32) : Prop :=
  (∀ a x, ((![v464] : Fin 1 → IVec S16 32) a x).toNat < S100000.size a)
instance k0_chk977.dec : ∀ (v464 : IVec S16 32), Decidable (k0_chk977 v464) := fun v464 => decidable_of_iff' _ (Iff.of_eq (k0_chk977.eq_1 v464))
theorem k0_idx977_inb : ∀ (v464 : IVec S16 32) (k0_hw977 : k0_chk977 v464), ∀ a x, ((![v464] : Fin 1 → IVec S16 32) a x).toNat < S100000.size a := fun v464 k0_hw977 => k0_hw977
def k0_off1131 (k0_t93 : Fin k0_t93_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v466 : BitVec 32 := Scalar.addi v461 c0_i32_288
  let v467 : Index := Scalar.indexCast v466
  ![v467.toNat]

def k0_chk978 (v471 : IVec S16 32) : Prop :=
  (∀ a x, ((![v471] : Fin 1 → IVec S16 32) a x).toNat < S100000.size a)
instance k0_chk978.dec : ∀ (v471 : IVec S16 32), Decidable (k0_chk978 v471) := fun v471 => decidable_of_iff' _ (Iff.of_eq (k0_chk978.eq_1 v471))
theorem k0_idx978_inb : ∀ (v471 : IVec S16 32) (k0_hw978 : k0_chk978 v471), ∀ a x, ((![v471] : Fin 1 → IVec S16 32) a x).toNat < S100000.size a := fun v471 k0_hw978 => k0_hw978
def k0_off1132 (k0_t93 : Fin k0_t93_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v473 : BitVec 32 := Scalar.addi v461 c16_i32_289
  let v474 : Index := Scalar.indexCast v473
  ![v474.toNat]

def k0_chk979 (v478 : IVec S16 32) : Prop :=
  (∀ a x, ((![v478] : Fin 1 → IVec S16 32) a x).toNat < S100000.size a)
instance k0_chk979.dec : ∀ (v478 : IVec S16 32), Decidable (k0_chk979 v478) := fun v478 => decidable_of_iff' _ (Iff.of_eq (k0_chk979.eq_1 v478))
theorem k0_idx979_inb : ∀ (v478 : IVec S16 32) (k0_hw979 : k0_chk979 v478), ∀ a x, ((![v478] : Fin 1 → IVec S16 32) a x).toNat < S100000.size a := fun v478 k0_hw979 => k0_hw979
def k0_off1133 (k0_t93 : Fin k0_t93_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v480 : BitVec 32 := Scalar.addi v461 c32_i32_291
  let v481 : Index := Scalar.indexCast v480
  ![v481.toNat]

def k0_chk980 (v485 : IVec S16 32) : Prop :=
  (∀ a x, ((![v485] : Fin 1 → IVec S16 32) a x).toNat < S100000.size a)
instance k0_chk980.dec : ∀ (v485 : IVec S16 32), Decidable (k0_chk980 v485) := fun v485 => decidable_of_iff' _ (Iff.of_eq (k0_chk980.eq_1 v485))
theorem k0_idx980_inb : ∀ (v485 : IVec S16 32) (k0_hw980 : k0_chk980 v485), ∀ a x, ((![v485] : Fin 1 → IVec S16 32) a x).toNat < S100000.size a := fun v485 k0_hw980 => k0_hw980
def k0_off1134 (k0_t93 : Fin k0_t93_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v487 : BitVec 32 := Scalar.addi v461 c48_i32_292
  let v488 : Index := Scalar.indexCast v487
  ![v488.toNat]

def k0_chk981 (v492 : IVec S16 32) : Prop :=
  (∀ a x, ((![v492] : Fin 1 → IVec S16 32) a x).toNat < S100000.size a)
instance k0_chk981.dec : ∀ (v492 : IVec S16 32), Decidable (k0_chk981 v492) := fun v492 => decidable_of_iff' _ (Iff.of_eq (k0_chk981.eq_1 v492))
theorem k0_idx981_inb : ∀ (v492 : IVec S16 32) (k0_hw981 : k0_chk981 v492), ∀ a x, ((![v492] : Fin 1 → IVec S16 32) a x).toNat < S100000.size a := fun v492 k0_hw981 => k0_hw981
def k0_off1135 (k0_t93 : Fin k0_t93_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v494 : BitVec 32 := Scalar.addi v461 c64_i32_293
  let v495 : Index := Scalar.indexCast v494
  ![v495.toNat]

def k0_chk982 (v499 : IVec S16 32) : Prop :=
  (∀ a x, ((![v499] : Fin 1 → IVec S16 32) a x).toNat < S100000.size a)
instance k0_chk982.dec : ∀ (v499 : IVec S16 32), Decidable (k0_chk982 v499) := fun v499 => decidable_of_iff' _ (Iff.of_eq (k0_chk982.eq_1 v499))
theorem k0_idx982_inb : ∀ (v499 : IVec S16 32) (k0_hw982 : k0_chk982 v499), ∀ a x, ((![v499] : Fin 1 → IVec S16 32) a x).toNat < S100000.size a := fun v499 k0_hw982 => k0_hw982
def k0_off1136 (k0_t93 : Fin k0_t93_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v501 : BitVec 32 := Scalar.addi v461 c80_i32_294
  let v502 : Index := Scalar.indexCast v501
  ![v502.toNat]

def k0_chk983 (v506 : IVec S16 32) : Prop :=
  (∀ a x, ((![v506] : Fin 1 → IVec S16 32) a x).toNat < S100000.size a)
instance k0_chk983.dec : ∀ (v506 : IVec S16 32), Decidable (k0_chk983 v506) := fun v506 => decidable_of_iff' _ (Iff.of_eq (k0_chk983.eq_1 v506))
theorem k0_idx983_inb : ∀ (v506 : IVec S16 32) (k0_hw983 : k0_chk983 v506), ∀ a x, ((![v506] : Fin 1 → IVec S16 32) a x).toNat < S100000.size a := fun v506 k0_hw983 => k0_hw983
def k0_off1137 (k0_t93 : Fin k0_t93_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v508 : BitVec 32 := Scalar.addi v461 c96_i32_295
  let v509 : Index := Scalar.indexCast v508
  ![v509.toNat]

def k0_chk984 (v513 : IVec S16 32) : Prop :=
  (∀ a x, ((![v513] : Fin 1 → IVec S16 32) a x).toNat < S100000.size a)
instance k0_chk984.dec : ∀ (v513 : IVec S16 32), Decidable (k0_chk984 v513) := fun v513 => decidable_of_iff' _ (Iff.of_eq (k0_chk984.eq_1 v513))
theorem k0_idx984_inb : ∀ (v513 : IVec S16 32) (k0_hw984 : k0_chk984 v513), ∀ a x, ((![v513] : Fin 1 → IVec S16 32) a x).toNat < S100000.size a := fun v513 k0_hw984 => k0_hw984
def k0_off1138 (k0_t93 : Fin k0_t93_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v515 : BitVec 32 := Scalar.addi v461 c112_i32_296
  let v516 : Index := Scalar.indexCast v515
  ![v516.toNat]

def k0_chk985 (v520 : IVec S16 32) : Prop :=
  (∀ a x, ((![v520] : Fin 1 → IVec S16 32) a x).toNat < S100000.size a)
instance k0_chk985.dec : ∀ (v520 : IVec S16 32), Decidable (k0_chk985 v520) := fun v520 => decidable_of_iff' _ (Iff.of_eq (k0_chk985.eq_1 v520))
theorem k0_idx985_inb : ∀ (v520 : IVec S16 32) (k0_hw985 : k0_chk985 v520), ∀ a x, ((![v520] : Fin 1 → IVec S16 32) a x).toNat < S100000.size a := fun v520 k0_hw985 => k0_hw985
def k0_off1139 (k0_t93 : Fin k0_t93_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v522 : BitVec 32 := Scalar.addi v461 c128_i32_297
  let v523 : Index := Scalar.indexCast v522
  ![v523.toNat]

def k0_chk986 (v527 : IVec S16 32) : Prop :=
  (∀ a x, ((![v527] : Fin 1 → IVec S16 32) a x).toNat < S100000.size a)
instance k0_chk986.dec : ∀ (v527 : IVec S16 32), Decidable (k0_chk986 v527) := fun v527 => decidable_of_iff' _ (Iff.of_eq (k0_chk986.eq_1 v527))
theorem k0_idx986_inb : ∀ (v527 : IVec S16 32) (k0_hw986 : k0_chk986 v527), ∀ a x, ((![v527] : Fin 1 → IVec S16 32) a x).toNat < S100000.size a := fun v527 k0_hw986 => k0_hw986
def k0_off1140 (k0_t93 : Fin k0_t93_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v529 : BitVec 32 := Scalar.addi v461 c144_i32_299
  let v530 : Index := Scalar.indexCast v529
  ![v530.toNat]

def k0_chk987 (v534 : IVec S16 32) : Prop :=
  (∀ a x, ((![v534] : Fin 1 → IVec S16 32) a x).toNat < S100000.size a)
instance k0_chk987.dec : ∀ (v534 : IVec S16 32), Decidable (k0_chk987 v534) := fun v534 => decidable_of_iff' _ (Iff.of_eq (k0_chk987.eq_1 v534))
theorem k0_idx987_inb : ∀ (v534 : IVec S16 32) (k0_hw987 : k0_chk987 v534), ∀ a x, ((![v534] : Fin 1 → IVec S16 32) a x).toNat < S100000.size a := fun v534 k0_hw987 => k0_hw987
def k0_off1141 (k0_t93 : Fin k0_t93_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v536 : BitVec 32 := Scalar.addi v461 c160_i32_300
  let v537 : Index := Scalar.indexCast v536
  ![v537.toNat]

def k0_chk988 (v541 : IVec S16 32) : Prop :=
  (∀ a x, ((![v541] : Fin 1 → IVec S16 32) a x).toNat < S100000.size a)
instance k0_chk988.dec : ∀ (v541 : IVec S16 32), Decidable (k0_chk988 v541) := fun v541 => decidable_of_iff' _ (Iff.of_eq (k0_chk988.eq_1 v541))
theorem k0_idx988_inb : ∀ (v541 : IVec S16 32) (k0_hw988 : k0_chk988 v541), ∀ a x, ((![v541] : Fin 1 → IVec S16 32) a x).toNat < S100000.size a := fun v541 k0_hw988 => k0_hw988
def k0_off1142 (k0_t93 : Fin k0_t93_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v543 : BitVec 32 := Scalar.addi v461 c176_i32_301
  let v544 : Index := Scalar.indexCast v543
  ![v544.toNat]

def k0_chk989 (v548 : IVec S16 32) : Prop :=
  (∀ a x, ((![v548] : Fin 1 → IVec S16 32) a x).toNat < S100000.size a)
instance k0_chk989.dec : ∀ (v548 : IVec S16 32), Decidable (k0_chk989 v548) := fun v548 => decidable_of_iff' _ (Iff.of_eq (k0_chk989.eq_1 v548))
theorem k0_idx989_inb : ∀ (v548 : IVec S16 32) (k0_hw989 : k0_chk989 v548), ∀ a x, ((![v548] : Fin 1 → IVec S16 32) a x).toNat < S100000.size a := fun v548 k0_hw989 => k0_hw989
def k0_off1143 (k0_t93 : Fin k0_t93_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v550 : BitVec 32 := Scalar.addi v461 c192_i32_302
  let v551 : Index := Scalar.indexCast v550
  ![v551.toNat]

def k0_chk990 (v555 : IVec S16 32) : Prop :=
  (∀ a x, ((![v555] : Fin 1 → IVec S16 32) a x).toNat < S100000.size a)
instance k0_chk990.dec : ∀ (v555 : IVec S16 32), Decidable (k0_chk990 v555) := fun v555 => decidable_of_iff' _ (Iff.of_eq (k0_chk990.eq_1 v555))
theorem k0_idx990_inb : ∀ (v555 : IVec S16 32) (k0_hw990 : k0_chk990 v555), ∀ a x, ((![v555] : Fin 1 → IVec S16 32) a x).toNat < S100000.size a := fun v555 k0_hw990 => k0_hw990
def k0_off1144 (k0_t93 : Fin k0_t93_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v557 : BitVec 32 := Scalar.addi v461 c208_i32_303
  let v558 : Index := Scalar.indexCast v557
  ![v558.toNat]

def k0_chk991 (v562 : IVec S16 32) : Prop :=
  (∀ a x, ((![v562] : Fin 1 → IVec S16 32) a x).toNat < S100000.size a)
instance k0_chk991.dec : ∀ (v562 : IVec S16 32), Decidable (k0_chk991 v562) := fun v562 => decidable_of_iff' _ (Iff.of_eq (k0_chk991.eq_1 v562))
theorem k0_idx991_inb : ∀ (v562 : IVec S16 32) (k0_hw991 : k0_chk991 v562), ∀ a x, ((![v562] : Fin 1 → IVec S16 32) a x).toNat < S100000.size a := fun v562 k0_hw991 => k0_hw991
def k0_off1145 (k0_t93 : Fin k0_t93_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let v564 : BitVec 32 := Scalar.addi v461 c224_i32_304
  let v565 : Index := Scalar.indexCast v564
  ![v565.toNat]

def k0_chk992 (v569 : IVec S16 32) : Prop :=
  (∀ a x, ((![v569] : Fin 1 → IVec S16 32) a x).toNat < S100000.size a)
instance k0_chk992.dec : ∀ (v569 : IVec S16 32), Decidable (k0_chk992 v569) := fun v569 => decidable_of_iff' _ (Iff.of_eq (k0_chk992.eq_1 v569))
theorem k0_idx992_inb : ∀ (v569 : IVec S16 32) (k0_hw992 : k0_chk992 v569), ∀ a x, ((![v569] : Fin 1 → IVec S16 32) a x).toNat < S100000.size a := fun v569 k0_hw992 => k0_hw992
def k0_off1146 (k0_t93 : Fin k0_t93_loop.trips) : Fin 1 → Nat :=
  let c0_i32_281 : BitVec 32 := 0#32
  let c1_i32_283 : BitVec 32 := 1#32
  let arg36 : BitVec 32 := Scf.iv c0_i32_281 c1_i32_283 k0_t93
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1147 (i : grid0.Coords) (k0_t91 : Fin (k0_t91_loop i).trips) : Fin 2 → Nat :=
  let c540_i32_285 : BitVec 32 := 540#32
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c1_i32_172 : BitVec 32 := 1#32
  let arg34 : BitVec 32 := Scf.iv v281 c1_i32_172 k0_t91
  let v460 : BitVec 32 := Scalar.addi c540_i32_285 arg34
  let c8192_i32_r124 : BitVec 32 := 8192#32
  ![v460.toNat, 8192]
@[reducible] def k0_t94_loop (i : grid0.Coords) : Scf.Loop 32 :=
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c36_i32_168 : BitVec 32 := 36#32
  let c0_i32_167 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c540_i32_166 : BitVec 32 := 540#32
  let v282 : BitVec 32 := Scalar.subi v38 c540_i32_166
  let v283 : BitVec 32 := Scalar.maxsi c0_i32_167 v282
  let v284 : BitVec 32 := Scalar.minsi c36_i32_168 v283
  let v288 : BitVec 32 := Scalar.subi v284 v281
  let c1_i32_171 : BitVec 32 := 1#32
  let v290 : BitVec 32 := Scalar.divsi v288 c1_i32_171
  let v291 : BitVec 32 := Scalar.muli v290 c1_i32_171
  let v292 : BitVec 32 := Scalar.addi v281 v291
  let v289 : BitVec 32 := Scalar.addi v281 v288
  let c1_i32_173 : BitVec 32 := 1#32
  ⟨v292, v289, c1_i32_173⟩
def k0_off1148 (i : grid0.Coords) (k0_t94 : Fin (k0_t94_loop i).trips) : Fin 2 → Nat :=
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c36_i32_168 : BitVec 32 := 36#32
  let c0_i32_167 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c540_i32_166 : BitVec 32 := 540#32
  let v282 : BitVec 32 := Scalar.subi v38 c540_i32_166
  let v283 : BitVec 32 := Scalar.maxsi c0_i32_167 v282
  let v284 : BitVec 32 := Scalar.minsi c36_i32_168 v283
  let v288 : BitVec 32 := Scalar.subi v284 v281
  let c1_i32_171 : BitVec 32 := 1#32
  let v290 : BitVec 32 := Scalar.divsi v288 c1_i32_171
  let v291 : BitVec 32 := Scalar.muli v290 c1_i32_171
  let v292 : BitVec 32 := Scalar.addi v281 v291
  let c1_i32_173 : BitVec 32 := 1#32
  let arg34 : BitVec 32 := Scf.iv v292 c1_i32_173 k0_t94
  let c0_i32_287_r125 : BitVec 32 := 0#32
  ![arg34.toNat, 0]
@[reducible] def k0_t95_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1149 (k0_t95 : Fin k0_t95_loop.trips) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk993 (v464 : IVec S16 32) : Prop :=
  (∀ a x, ((![v464] : Fin 1 → IVec S16 32) a x).toNat < S100000.size a)
instance k0_chk993.dec : ∀ (v464 : IVec S16 32), Decidable (k0_chk993 v464) := fun v464 => decidable_of_iff' _ (Iff.of_eq (k0_chk993.eq_1 v464))
theorem k0_idx993_inb : ∀ (v464 : IVec S16 32) (k0_hw993 : k0_chk993 v464), ∀ a x, ((![v464] : Fin 1 → IVec S16 32) a x).toNat < S100000.size a := fun v464 k0_hw993 => k0_hw993
def k0_off1150 (k0_t95 : Fin k0_t95_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v466 : BitVec 32 := Scalar.addi v461 c0_i32_288
  let v467 : Index := Scalar.indexCast v466
  ![v467.toNat]

def k0_chk994 (v471 : IVec S16 32) : Prop :=
  (∀ a x, ((![v471] : Fin 1 → IVec S16 32) a x).toNat < S100000.size a)
instance k0_chk994.dec : ∀ (v471 : IVec S16 32), Decidable (k0_chk994 v471) := fun v471 => decidable_of_iff' _ (Iff.of_eq (k0_chk994.eq_1 v471))
theorem k0_idx994_inb : ∀ (v471 : IVec S16 32) (k0_hw994 : k0_chk994 v471), ∀ a x, ((![v471] : Fin 1 → IVec S16 32) a x).toNat < S100000.size a := fun v471 k0_hw994 => k0_hw994
def k0_off1151 (k0_t95 : Fin k0_t95_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v473 : BitVec 32 := Scalar.addi v461 c16_i32_289
  let v474 : Index := Scalar.indexCast v473
  ![v474.toNat]

def k0_chk995 (v478 : IVec S16 32) : Prop :=
  (∀ a x, ((![v478] : Fin 1 → IVec S16 32) a x).toNat < S100000.size a)
instance k0_chk995.dec : ∀ (v478 : IVec S16 32), Decidable (k0_chk995 v478) := fun v478 => decidable_of_iff' _ (Iff.of_eq (k0_chk995.eq_1 v478))
theorem k0_idx995_inb : ∀ (v478 : IVec S16 32) (k0_hw995 : k0_chk995 v478), ∀ a x, ((![v478] : Fin 1 → IVec S16 32) a x).toNat < S100000.size a := fun v478 k0_hw995 => k0_hw995
def k0_off1152 (k0_t95 : Fin k0_t95_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v480 : BitVec 32 := Scalar.addi v461 c32_i32_291
  let v481 : Index := Scalar.indexCast v480
  ![v481.toNat]

def k0_chk996 (v485 : IVec S16 32) : Prop :=
  (∀ a x, ((![v485] : Fin 1 → IVec S16 32) a x).toNat < S100000.size a)
instance k0_chk996.dec : ∀ (v485 : IVec S16 32), Decidable (k0_chk996 v485) := fun v485 => decidable_of_iff' _ (Iff.of_eq (k0_chk996.eq_1 v485))
theorem k0_idx996_inb : ∀ (v485 : IVec S16 32) (k0_hw996 : k0_chk996 v485), ∀ a x, ((![v485] : Fin 1 → IVec S16 32) a x).toNat < S100000.size a := fun v485 k0_hw996 => k0_hw996
def k0_off1153 (k0_t95 : Fin k0_t95_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v487 : BitVec 32 := Scalar.addi v461 c48_i32_292
  let v488 : Index := Scalar.indexCast v487
  ![v488.toNat]

def k0_chk997 (v492 : IVec S16 32) : Prop :=
  (∀ a x, ((![v492] : Fin 1 → IVec S16 32) a x).toNat < S100000.size a)
instance k0_chk997.dec : ∀ (v492 : IVec S16 32), Decidable (k0_chk997 v492) := fun v492 => decidable_of_iff' _ (Iff.of_eq (k0_chk997.eq_1 v492))
theorem k0_idx997_inb : ∀ (v492 : IVec S16 32) (k0_hw997 : k0_chk997 v492), ∀ a x, ((![v492] : Fin 1 → IVec S16 32) a x).toNat < S100000.size a := fun v492 k0_hw997 => k0_hw997
def k0_off1154 (k0_t95 : Fin k0_t95_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v494 : BitVec 32 := Scalar.addi v461 c64_i32_293
  let v495 : Index := Scalar.indexCast v494
  ![v495.toNat]

def k0_chk998 (v499 : IVec S16 32) : Prop :=
  (∀ a x, ((![v499] : Fin 1 → IVec S16 32) a x).toNat < S100000.size a)
instance k0_chk998.dec : ∀ (v499 : IVec S16 32), Decidable (k0_chk998 v499) := fun v499 => decidable_of_iff' _ (Iff.of_eq (k0_chk998.eq_1 v499))
theorem k0_idx998_inb : ∀ (v499 : IVec S16 32) (k0_hw998 : k0_chk998 v499), ∀ a x, ((![v499] : Fin 1 → IVec S16 32) a x).toNat < S100000.size a := fun v499 k0_hw998 => k0_hw998
def k0_off1155 (k0_t95 : Fin k0_t95_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v501 : BitVec 32 := Scalar.addi v461 c80_i32_294
  let v502 : Index := Scalar.indexCast v501
  ![v502.toNat]

def k0_chk999 (v506 : IVec S16 32) : Prop :=
  (∀ a x, ((![v506] : Fin 1 → IVec S16 32) a x).toNat < S100000.size a)
instance k0_chk999.dec : ∀ (v506 : IVec S16 32), Decidable (k0_chk999 v506) := fun v506 => decidable_of_iff' _ (Iff.of_eq (k0_chk999.eq_1 v506))
theorem k0_idx999_inb : ∀ (v506 : IVec S16 32) (k0_hw999 : k0_chk999 v506), ∀ a x, ((![v506] : Fin 1 → IVec S16 32) a x).toNat < S100000.size a := fun v506 k0_hw999 => k0_hw999
def k0_off1156 (k0_t95 : Fin k0_t95_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1000 (v513 : IVec S16 32) : Prop :=
  (∀ a x, ((![v513] : Fin 1 → IVec S16 32) a x).toNat < S100000.size a)
instance k0_chk1000.dec : ∀ (v513 : IVec S16 32), Decidable (k0_chk1000 v513) := fun v513 => decidable_of_iff' _ (Iff.of_eq (k0_chk1000.eq_1 v513))
theorem k0_idx1000_inb : ∀ (v513 : IVec S16 32) (k0_hw1000 : k0_chk1000 v513), ∀ a x, ((![v513] : Fin 1 → IVec S16 32) a x).toNat < S100000.size a := fun v513 k0_hw1000 => k0_hw1000
def k0_off1157 (k0_t95 : Fin k0_t95_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1001 (v520 : IVec S16 32) : Prop :=
  (∀ a x, ((![v520] : Fin 1 → IVec S16 32) a x).toNat < S100000.size a)
instance k0_chk1001.dec : ∀ (v520 : IVec S16 32), Decidable (k0_chk1001 v520) := fun v520 => decidable_of_iff' _ (Iff.of_eq (k0_chk1001.eq_1 v520))
theorem k0_idx1001_inb : ∀ (v520 : IVec S16 32) (k0_hw1001 : k0_chk1001 v520), ∀ a x, ((![v520] : Fin 1 → IVec S16 32) a x).toNat < S100000.size a := fun v520 k0_hw1001 => k0_hw1001
def k0_off1158 (k0_t95 : Fin k0_t95_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1002 (v527 : IVec S16 32) : Prop :=
  (∀ a x, ((![v527] : Fin 1 → IVec S16 32) a x).toNat < S100000.size a)
instance k0_chk1002.dec : ∀ (v527 : IVec S16 32), Decidable (k0_chk1002 v527) := fun v527 => decidable_of_iff' _ (Iff.of_eq (k0_chk1002.eq_1 v527))
theorem k0_idx1002_inb : ∀ (v527 : IVec S16 32) (k0_hw1002 : k0_chk1002 v527), ∀ a x, ((![v527] : Fin 1 → IVec S16 32) a x).toNat < S100000.size a := fun v527 k0_hw1002 => k0_hw1002
def k0_off1159 (k0_t95 : Fin k0_t95_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1003 (v534 : IVec S16 32) : Prop :=
  (∀ a x, ((![v534] : Fin 1 → IVec S16 32) a x).toNat < S100000.size a)
instance k0_chk1003.dec : ∀ (v534 : IVec S16 32), Decidable (k0_chk1003 v534) := fun v534 => decidable_of_iff' _ (Iff.of_eq (k0_chk1003.eq_1 v534))
theorem k0_idx1003_inb : ∀ (v534 : IVec S16 32) (k0_hw1003 : k0_chk1003 v534), ∀ a x, ((![v534] : Fin 1 → IVec S16 32) a x).toNat < S100000.size a := fun v534 k0_hw1003 => k0_hw1003
def k0_off1160 (k0_t95 : Fin k0_t95_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1004 (v541 : IVec S16 32) : Prop :=
  (∀ a x, ((![v541] : Fin 1 → IVec S16 32) a x).toNat < S100000.size a)
instance k0_chk1004.dec : ∀ (v541 : IVec S16 32), Decidable (k0_chk1004 v541) := fun v541 => decidable_of_iff' _ (Iff.of_eq (k0_chk1004.eq_1 v541))
theorem k0_idx1004_inb : ∀ (v541 : IVec S16 32) (k0_hw1004 : k0_chk1004 v541), ∀ a x, ((![v541] : Fin 1 → IVec S16 32) a x).toNat < S100000.size a := fun v541 k0_hw1004 => k0_hw1004
def k0_off1161 (k0_t95 : Fin k0_t95_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1005 (v548 : IVec S16 32) : Prop :=
  (∀ a x, ((![v548] : Fin 1 → IVec S16 32) a x).toNat < S100000.size a)
instance k0_chk1005.dec : ∀ (v548 : IVec S16 32), Decidable (k0_chk1005 v548) := fun v548 => decidable_of_iff' _ (Iff.of_eq (k0_chk1005.eq_1 v548))
theorem k0_idx1005_inb : ∀ (v548 : IVec S16 32) (k0_hw1005 : k0_chk1005 v548), ∀ a x, ((![v548] : Fin 1 → IVec S16 32) a x).toNat < S100000.size a := fun v548 k0_hw1005 => k0_hw1005
def k0_off1162 (k0_t95 : Fin k0_t95_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1006 (v555 : IVec S16 32) : Prop :=
  (∀ a x, ((![v555] : Fin 1 → IVec S16 32) a x).toNat < S100000.size a)
instance k0_chk1006.dec : ∀ (v555 : IVec S16 32), Decidable (k0_chk1006 v555) := fun v555 => decidable_of_iff' _ (Iff.of_eq (k0_chk1006.eq_1 v555))
theorem k0_idx1006_inb : ∀ (v555 : IVec S16 32) (k0_hw1006 : k0_chk1006 v555), ∀ a x, ((![v555] : Fin 1 → IVec S16 32) a x).toNat < S100000.size a := fun v555 k0_hw1006 => k0_hw1006
def k0_off1163 (k0_t95 : Fin k0_t95_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1007 (v562 : IVec S16 32) : Prop :=
  (∀ a x, ((![v562] : Fin 1 → IVec S16 32) a x).toNat < S100000.size a)
instance k0_chk1007.dec : ∀ (v562 : IVec S16 32), Decidable (k0_chk1007 v562) := fun v562 => decidable_of_iff' _ (Iff.of_eq (k0_chk1007.eq_1 v562))
theorem k0_idx1007_inb : ∀ (v562 : IVec S16 32) (k0_hw1007 : k0_chk1007 v562), ∀ a x, ((![v562] : Fin 1 → IVec S16 32) a x).toNat < S100000.size a := fun v562 k0_hw1007 => k0_hw1007
def k0_off1164 (k0_t95 : Fin k0_t95_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1008 (v569 : IVec S16 32) : Prop :=
  (∀ a x, ((![v569] : Fin 1 → IVec S16 32) a x).toNat < S100000.size a)
instance k0_chk1008.dec : ∀ (v569 : IVec S16 32), Decidable (k0_chk1008 v569) := fun v569 => decidable_of_iff' _ (Iff.of_eq (k0_chk1008.eq_1 v569))
theorem k0_idx1008_inb : ∀ (v569 : IVec S16 32) (k0_hw1008 : k0_chk1008 v569), ∀ a x, ((![v569] : Fin 1 → IVec S16 32) a x).toNat < S100000.size a := fun v569 k0_hw1008 => k0_hw1008
def k0_off1165 (k0_t95 : Fin k0_t95_loop.trips) : Fin 1 → Nat :=
  let c0_i32_275 : BitVec 32 := 0#32
  let c1_i32_277 : BitVec 32 := 1#32
  let arg36 : BitVec 32 := Scf.iv c0_i32_275 c1_i32_277 k0_t95
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1166 (i : grid0.Coords) (k0_t94 : Fin (k0_t94_loop i).trips) : Fin 2 → Nat :=
  let c540_i32_279 : BitVec 32 := 540#32
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c36_i32_168 : BitVec 32 := 36#32
  let c0_i32_167 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c540_i32_166 : BitVec 32 := 540#32
  let v282 : BitVec 32 := Scalar.subi v38 c540_i32_166
  let v283 : BitVec 32 := Scalar.maxsi c0_i32_167 v282
  let v284 : BitVec 32 := Scalar.minsi c36_i32_168 v283
  let v288 : BitVec 32 := Scalar.subi v284 v281
  let c1_i32_171 : BitVec 32 := 1#32
  let v290 : BitVec 32 := Scalar.divsi v288 c1_i32_171
  let v291 : BitVec 32 := Scalar.muli v290 c1_i32_171
  let v292 : BitVec 32 := Scalar.addi v281 v291
  let c1_i32_173 : BitVec 32 := 1#32
  let arg34 : BitVec 32 := Scf.iv v292 c1_i32_173 k0_t94
  let v457 : BitVec 32 := Scalar.addi c540_i32_279 arg34
  let c0_i32_287_r126 : BitVec 32 := 0#32
  ![v457.toNat, 0]
@[reducible] def k0_t96_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1167 (k0_t96 : Fin k0_t96_loop.trips) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1009 (v464 : IVec S16 32) : Prop :=
  (∀ a x, ((![v464] : Fin 1 → IVec S16 32) a x).toNat < S100000.size a)
instance k0_chk1009.dec : ∀ (v464 : IVec S16 32), Decidable (k0_chk1009 v464) := fun v464 => decidable_of_iff' _ (Iff.of_eq (k0_chk1009.eq_1 v464))
theorem k0_idx1009_inb : ∀ (v464 : IVec S16 32) (k0_hw1009 : k0_chk1009 v464), ∀ a x, ((![v464] : Fin 1 → IVec S16 32) a x).toNat < S100000.size a := fun v464 k0_hw1009 => k0_hw1009
def k0_off1168 (k0_t96 : Fin k0_t96_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1010 (v471 : IVec S16 32) : Prop :=
  (∀ a x, ((![v471] : Fin 1 → IVec S16 32) a x).toNat < S100000.size a)
instance k0_chk1010.dec : ∀ (v471 : IVec S16 32), Decidable (k0_chk1010 v471) := fun v471 => decidable_of_iff' _ (Iff.of_eq (k0_chk1010.eq_1 v471))
theorem k0_idx1010_inb : ∀ (v471 : IVec S16 32) (k0_hw1010 : k0_chk1010 v471), ∀ a x, ((![v471] : Fin 1 → IVec S16 32) a x).toNat < S100000.size a := fun v471 k0_hw1010 => k0_hw1010
def k0_off1169 (k0_t96 : Fin k0_t96_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1011 (v478 : IVec S16 32) : Prop :=
  (∀ a x, ((![v478] : Fin 1 → IVec S16 32) a x).toNat < S100000.size a)
instance k0_chk1011.dec : ∀ (v478 : IVec S16 32), Decidable (k0_chk1011 v478) := fun v478 => decidable_of_iff' _ (Iff.of_eq (k0_chk1011.eq_1 v478))
theorem k0_idx1011_inb : ∀ (v478 : IVec S16 32) (k0_hw1011 : k0_chk1011 v478), ∀ a x, ((![v478] : Fin 1 → IVec S16 32) a x).toNat < S100000.size a := fun v478 k0_hw1011 => k0_hw1011
def k0_off1170 (k0_t96 : Fin k0_t96_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1012 (v485 : IVec S16 32) : Prop :=
  (∀ a x, ((![v485] : Fin 1 → IVec S16 32) a x).toNat < S100000.size a)
instance k0_chk1012.dec : ∀ (v485 : IVec S16 32), Decidable (k0_chk1012 v485) := fun v485 => decidable_of_iff' _ (Iff.of_eq (k0_chk1012.eq_1 v485))
theorem k0_idx1012_inb : ∀ (v485 : IVec S16 32) (k0_hw1012 : k0_chk1012 v485), ∀ a x, ((![v485] : Fin 1 → IVec S16 32) a x).toNat < S100000.size a := fun v485 k0_hw1012 => k0_hw1012
def k0_off1171 (k0_t96 : Fin k0_t96_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1013 (v492 : IVec S16 32) : Prop :=
  (∀ a x, ((![v492] : Fin 1 → IVec S16 32) a x).toNat < S100000.size a)
instance k0_chk1013.dec : ∀ (v492 : IVec S16 32), Decidable (k0_chk1013 v492) := fun v492 => decidable_of_iff' _ (Iff.of_eq (k0_chk1013.eq_1 v492))
theorem k0_idx1013_inb : ∀ (v492 : IVec S16 32) (k0_hw1013 : k0_chk1013 v492), ∀ a x, ((![v492] : Fin 1 → IVec S16 32) a x).toNat < S100000.size a := fun v492 k0_hw1013 => k0_hw1013
def k0_off1172 (k0_t96 : Fin k0_t96_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1014 (v499 : IVec S16 32) : Prop :=
  (∀ a x, ((![v499] : Fin 1 → IVec S16 32) a x).toNat < S100000.size a)
instance k0_chk1014.dec : ∀ (v499 : IVec S16 32), Decidable (k0_chk1014 v499) := fun v499 => decidable_of_iff' _ (Iff.of_eq (k0_chk1014.eq_1 v499))
theorem k0_idx1014_inb : ∀ (v499 : IVec S16 32) (k0_hw1014 : k0_chk1014 v499), ∀ a x, ((![v499] : Fin 1 → IVec S16 32) a x).toNat < S100000.size a := fun v499 k0_hw1014 => k0_hw1014
def k0_off1173 (k0_t96 : Fin k0_t96_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1015 (v506 : IVec S16 32) : Prop :=
  (∀ a x, ((![v506] : Fin 1 → IVec S16 32) a x).toNat < S100000.size a)
instance k0_chk1015.dec : ∀ (v506 : IVec S16 32), Decidable (k0_chk1015 v506) := fun v506 => decidable_of_iff' _ (Iff.of_eq (k0_chk1015.eq_1 v506))
theorem k0_idx1015_inb : ∀ (v506 : IVec S16 32) (k0_hw1015 : k0_chk1015 v506), ∀ a x, ((![v506] : Fin 1 → IVec S16 32) a x).toNat < S100000.size a := fun v506 k0_hw1015 => k0_hw1015
def k0_off1174 (k0_t96 : Fin k0_t96_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1016 (v513 : IVec S16 32) : Prop :=
  (∀ a x, ((![v513] : Fin 1 → IVec S16 32) a x).toNat < S100000.size a)
instance k0_chk1016.dec : ∀ (v513 : IVec S16 32), Decidable (k0_chk1016 v513) := fun v513 => decidable_of_iff' _ (Iff.of_eq (k0_chk1016.eq_1 v513))
theorem k0_idx1016_inb : ∀ (v513 : IVec S16 32) (k0_hw1016 : k0_chk1016 v513), ∀ a x, ((![v513] : Fin 1 → IVec S16 32) a x).toNat < S100000.size a := fun v513 k0_hw1016 => k0_hw1016
def k0_off1175 (k0_t96 : Fin k0_t96_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1017 (v520 : IVec S16 32) : Prop :=
  (∀ a x, ((![v520] : Fin 1 → IVec S16 32) a x).toNat < S100000.size a)
instance k0_chk1017.dec : ∀ (v520 : IVec S16 32), Decidable (k0_chk1017 v520) := fun v520 => decidable_of_iff' _ (Iff.of_eq (k0_chk1017.eq_1 v520))
theorem k0_idx1017_inb : ∀ (v520 : IVec S16 32) (k0_hw1017 : k0_chk1017 v520), ∀ a x, ((![v520] : Fin 1 → IVec S16 32) a x).toNat < S100000.size a := fun v520 k0_hw1017 => k0_hw1017
def k0_off1176 (k0_t96 : Fin k0_t96_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1018 (v527 : IVec S16 32) : Prop :=
  (∀ a x, ((![v527] : Fin 1 → IVec S16 32) a x).toNat < S100000.size a)
instance k0_chk1018.dec : ∀ (v527 : IVec S16 32), Decidable (k0_chk1018 v527) := fun v527 => decidable_of_iff' _ (Iff.of_eq (k0_chk1018.eq_1 v527))
theorem k0_idx1018_inb : ∀ (v527 : IVec S16 32) (k0_hw1018 : k0_chk1018 v527), ∀ a x, ((![v527] : Fin 1 → IVec S16 32) a x).toNat < S100000.size a := fun v527 k0_hw1018 => k0_hw1018
def k0_off1177 (k0_t96 : Fin k0_t96_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1019 (v534 : IVec S16 32) : Prop :=
  (∀ a x, ((![v534] : Fin 1 → IVec S16 32) a x).toNat < S100000.size a)
instance k0_chk1019.dec : ∀ (v534 : IVec S16 32), Decidable (k0_chk1019 v534) := fun v534 => decidable_of_iff' _ (Iff.of_eq (k0_chk1019.eq_1 v534))
theorem k0_idx1019_inb : ∀ (v534 : IVec S16 32) (k0_hw1019 : k0_chk1019 v534), ∀ a x, ((![v534] : Fin 1 → IVec S16 32) a x).toNat < S100000.size a := fun v534 k0_hw1019 => k0_hw1019
def k0_off1178 (k0_t96 : Fin k0_t96_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1020 (v541 : IVec S16 32) : Prop :=
  (∀ a x, ((![v541] : Fin 1 → IVec S16 32) a x).toNat < S100000.size a)
instance k0_chk1020.dec : ∀ (v541 : IVec S16 32), Decidable (k0_chk1020 v541) := fun v541 => decidable_of_iff' _ (Iff.of_eq (k0_chk1020.eq_1 v541))
theorem k0_idx1020_inb : ∀ (v541 : IVec S16 32) (k0_hw1020 : k0_chk1020 v541), ∀ a x, ((![v541] : Fin 1 → IVec S16 32) a x).toNat < S100000.size a := fun v541 k0_hw1020 => k0_hw1020
def k0_off1179 (k0_t96 : Fin k0_t96_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1021 (v548 : IVec S16 32) : Prop :=
  (∀ a x, ((![v548] : Fin 1 → IVec S16 32) a x).toNat < S100000.size a)
instance k0_chk1021.dec : ∀ (v548 : IVec S16 32), Decidable (k0_chk1021 v548) := fun v548 => decidable_of_iff' _ (Iff.of_eq (k0_chk1021.eq_1 v548))
theorem k0_idx1021_inb : ∀ (v548 : IVec S16 32) (k0_hw1021 : k0_chk1021 v548), ∀ a x, ((![v548] : Fin 1 → IVec S16 32) a x).toNat < S100000.size a := fun v548 k0_hw1021 => k0_hw1021
def k0_off1180 (k0_t96 : Fin k0_t96_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1022 (v555 : IVec S16 32) : Prop :=
  (∀ a x, ((![v555] : Fin 1 → IVec S16 32) a x).toNat < S100000.size a)
instance k0_chk1022.dec : ∀ (v555 : IVec S16 32), Decidable (k0_chk1022 v555) := fun v555 => decidable_of_iff' _ (Iff.of_eq (k0_chk1022.eq_1 v555))
theorem k0_idx1022_inb : ∀ (v555 : IVec S16 32) (k0_hw1022 : k0_chk1022 v555), ∀ a x, ((![v555] : Fin 1 → IVec S16 32) a x).toNat < S100000.size a := fun v555 k0_hw1022 => k0_hw1022
def k0_off1181 (k0_t96 : Fin k0_t96_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1023 (v562 : IVec S16 32) : Prop :=
  (∀ a x, ((![v562] : Fin 1 → IVec S16 32) a x).toNat < S100000.size a)
instance k0_chk1023.dec : ∀ (v562 : IVec S16 32), Decidable (k0_chk1023 v562) := fun v562 => decidable_of_iff' _ (Iff.of_eq (k0_chk1023.eq_1 v562))
theorem k0_idx1023_inb : ∀ (v562 : IVec S16 32) (k0_hw1023 : k0_chk1023 v562), ∀ a x, ((![v562] : Fin 1 → IVec S16 32) a x).toNat < S100000.size a := fun v562 k0_hw1023 => k0_hw1023
def k0_off1182 (k0_t96 : Fin k0_t96_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1024 (v569 : IVec S16 32) : Prop :=
  (∀ a x, ((![v569] : Fin 1 → IVec S16 32) a x).toNat < S100000.size a)
instance k0_chk1024.dec : ∀ (v569 : IVec S16 32), Decidable (k0_chk1024 v569) := fun v569 => decidable_of_iff' _ (Iff.of_eq (k0_chk1024.eq_1 v569))
theorem k0_idx1024_inb : ∀ (v569 : IVec S16 32) (k0_hw1024 : k0_chk1024 v569), ∀ a x, ((![v569] : Fin 1 → IVec S16 32) a x).toNat < S100000.size a := fun v569 k0_hw1024 => k0_hw1024
def k0_off1183 (k0_t96 : Fin k0_t96_loop.trips) : Fin 1 → Nat :=
  let c0_i32_281 : BitVec 32 := 0#32
  let c1_i32_283 : BitVec 32 := 1#32
  let arg36 : BitVec 32 := Scf.iv c0_i32_281 c1_i32_283 k0_t96
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1184 (i : grid0.Coords) (k0_t94 : Fin (k0_t94_loop i).trips) : Fin 2 → Nat :=
  let c540_i32_285 : BitVec 32 := 540#32
  let c36_i32_165 : BitVec 32 := 36#32
  let c0_i32_164 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c540_i32 : BitVec 32 := 540#32
  let v279 : BitVec 32 := Scalar.subi v19 c540_i32
  let v280 : BitVec 32 := Scalar.maxsi c0_i32_164 v279
  let v281 : BitVec 32 := Scalar.minsi c36_i32_165 v280
  let c36_i32_168 : BitVec 32 := 36#32
  let c0_i32_167 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c540_i32_166 : BitVec 32 := 540#32
  let v282 : BitVec 32 := Scalar.subi v38 c540_i32_166
  let v283 : BitVec 32 := Scalar.maxsi c0_i32_167 v282
  let v284 : BitVec 32 := Scalar.minsi c36_i32_168 v283
  let v288 : BitVec 32 := Scalar.subi v284 v281
  let c1_i32_171 : BitVec 32 := 1#32
  let v290 : BitVec 32 := Scalar.divsi v288 c1_i32_171
  let v291 : BitVec 32 := Scalar.muli v290 c1_i32_171
  let v292 : BitVec 32 := Scalar.addi v281 v291
  let c1_i32_173 : BitVec 32 := 1#32
  let arg34 : BitVec 32 := Scf.iv v292 c1_i32_173 k0_t94
  let v460 : BitVec 32 := Scalar.addi c540_i32_285 arg34
  let c8192_i32_r127 : BitVec 32 := 8192#32
  ![v460.toNat, 8192]
@[reducible] def k0_t97_loop (i : grid0.Coords) : Scf.Loop 32 :=
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c36_i32_178 : BitVec 32 := 36#32
  let c0_i32_177 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c576_i32_176 : BitVec 32 := 576#32
  let v298 : BitVec 32 := Scalar.subi v38 c576_i32_176
  let v299 : BitVec 32 := Scalar.maxsi c0_i32_177 v298
  let v300 : BitVec 32 := Scalar.minsi c36_i32_178 v299
  let v304 : BitVec 32 := Scalar.subi v300 v297
  let c1_i32_181 : BitVec 32 := 1#32
  let v306 : BitVec 32 := Scalar.divsi v304 c1_i32_181
  let v307 : BitVec 32 := Scalar.muli v306 c1_i32_181
  let v308 : BitVec 32 := Scalar.addi v297 v307
  let c1_i32_182 : BitVec 32 := 1#32
  ⟨v297, v308, c1_i32_182⟩
def k0_off1185 (i : grid0.Coords) (k0_t97 : Fin (k0_t97_loop i).trips) : Fin 2 → Nat :=
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c1_i32_182 : BitVec 32 := 1#32
  let arg34 : BitVec 32 := Scf.iv v297 c1_i32_182 k0_t97
  let c0_i32_287_r130 : BitVec 32 := 0#32
  ![arg34.toNat, 0]
@[reducible] def k0_t98_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1186 (k0_t98 : Fin k0_t98_loop.trips) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1025 (v464 : IVec S16 32) : Prop :=
  (∀ a x, ((![v464] : Fin 1 → IVec S16 32) a x).toNat < S100000.size a)
instance k0_chk1025.dec : ∀ (v464 : IVec S16 32), Decidable (k0_chk1025 v464) := fun v464 => decidable_of_iff' _ (Iff.of_eq (k0_chk1025.eq_1 v464))
theorem k0_idx1025_inb : ∀ (v464 : IVec S16 32) (k0_hw1025 : k0_chk1025 v464), ∀ a x, ((![v464] : Fin 1 → IVec S16 32) a x).toNat < S100000.size a := fun v464 k0_hw1025 => k0_hw1025
def k0_off1187 (k0_t98 : Fin k0_t98_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1026 (v471 : IVec S16 32) : Prop :=
  (∀ a x, ((![v471] : Fin 1 → IVec S16 32) a x).toNat < S100000.size a)
instance k0_chk1026.dec : ∀ (v471 : IVec S16 32), Decidable (k0_chk1026 v471) := fun v471 => decidable_of_iff' _ (Iff.of_eq (k0_chk1026.eq_1 v471))
theorem k0_idx1026_inb : ∀ (v471 : IVec S16 32) (k0_hw1026 : k0_chk1026 v471), ∀ a x, ((![v471] : Fin 1 → IVec S16 32) a x).toNat < S100000.size a := fun v471 k0_hw1026 => k0_hw1026
def k0_off1188 (k0_t98 : Fin k0_t98_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1027 (v478 : IVec S16 32) : Prop :=
  (∀ a x, ((![v478] : Fin 1 → IVec S16 32) a x).toNat < S100000.size a)
instance k0_chk1027.dec : ∀ (v478 : IVec S16 32), Decidable (k0_chk1027 v478) := fun v478 => decidable_of_iff' _ (Iff.of_eq (k0_chk1027.eq_1 v478))
theorem k0_idx1027_inb : ∀ (v478 : IVec S16 32) (k0_hw1027 : k0_chk1027 v478), ∀ a x, ((![v478] : Fin 1 → IVec S16 32) a x).toNat < S100000.size a := fun v478 k0_hw1027 => k0_hw1027
def k0_off1189 (k0_t98 : Fin k0_t98_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1028 (v485 : IVec S16 32) : Prop :=
  (∀ a x, ((![v485] : Fin 1 → IVec S16 32) a x).toNat < S100000.size a)
instance k0_chk1028.dec : ∀ (v485 : IVec S16 32), Decidable (k0_chk1028 v485) := fun v485 => decidable_of_iff' _ (Iff.of_eq (k0_chk1028.eq_1 v485))
theorem k0_idx1028_inb : ∀ (v485 : IVec S16 32) (k0_hw1028 : k0_chk1028 v485), ∀ a x, ((![v485] : Fin 1 → IVec S16 32) a x).toNat < S100000.size a := fun v485 k0_hw1028 => k0_hw1028
def k0_off1190 (k0_t98 : Fin k0_t98_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1029 (v492 : IVec S16 32) : Prop :=
  (∀ a x, ((![v492] : Fin 1 → IVec S16 32) a x).toNat < S100000.size a)
instance k0_chk1029.dec : ∀ (v492 : IVec S16 32), Decidable (k0_chk1029 v492) := fun v492 => decidable_of_iff' _ (Iff.of_eq (k0_chk1029.eq_1 v492))
theorem k0_idx1029_inb : ∀ (v492 : IVec S16 32) (k0_hw1029 : k0_chk1029 v492), ∀ a x, ((![v492] : Fin 1 → IVec S16 32) a x).toNat < S100000.size a := fun v492 k0_hw1029 => k0_hw1029
def k0_off1191 (k0_t98 : Fin k0_t98_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1030 (v499 : IVec S16 32) : Prop :=
  (∀ a x, ((![v499] : Fin 1 → IVec S16 32) a x).toNat < S100000.size a)
instance k0_chk1030.dec : ∀ (v499 : IVec S16 32), Decidable (k0_chk1030 v499) := fun v499 => decidable_of_iff' _ (Iff.of_eq (k0_chk1030.eq_1 v499))
theorem k0_idx1030_inb : ∀ (v499 : IVec S16 32) (k0_hw1030 : k0_chk1030 v499), ∀ a x, ((![v499] : Fin 1 → IVec S16 32) a x).toNat < S100000.size a := fun v499 k0_hw1030 => k0_hw1030
def k0_off1192 (k0_t98 : Fin k0_t98_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1031 (v506 : IVec S16 32) : Prop :=
  (∀ a x, ((![v506] : Fin 1 → IVec S16 32) a x).toNat < S100000.size a)
instance k0_chk1031.dec : ∀ (v506 : IVec S16 32), Decidable (k0_chk1031 v506) := fun v506 => decidable_of_iff' _ (Iff.of_eq (k0_chk1031.eq_1 v506))
theorem k0_idx1031_inb : ∀ (v506 : IVec S16 32) (k0_hw1031 : k0_chk1031 v506), ∀ a x, ((![v506] : Fin 1 → IVec S16 32) a x).toNat < S100000.size a := fun v506 k0_hw1031 => k0_hw1031
def k0_off1193 (k0_t98 : Fin k0_t98_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1032 (v513 : IVec S16 32) : Prop :=
  (∀ a x, ((![v513] : Fin 1 → IVec S16 32) a x).toNat < S100000.size a)
instance k0_chk1032.dec : ∀ (v513 : IVec S16 32), Decidable (k0_chk1032 v513) := fun v513 => decidable_of_iff' _ (Iff.of_eq (k0_chk1032.eq_1 v513))
theorem k0_idx1032_inb : ∀ (v513 : IVec S16 32) (k0_hw1032 : k0_chk1032 v513), ∀ a x, ((![v513] : Fin 1 → IVec S16 32) a x).toNat < S100000.size a := fun v513 k0_hw1032 => k0_hw1032
def k0_off1194 (k0_t98 : Fin k0_t98_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1033 (v520 : IVec S16 32) : Prop :=
  (∀ a x, ((![v520] : Fin 1 → IVec S16 32) a x).toNat < S100000.size a)
instance k0_chk1033.dec : ∀ (v520 : IVec S16 32), Decidable (k0_chk1033 v520) := fun v520 => decidable_of_iff' _ (Iff.of_eq (k0_chk1033.eq_1 v520))
theorem k0_idx1033_inb : ∀ (v520 : IVec S16 32) (k0_hw1033 : k0_chk1033 v520), ∀ a x, ((![v520] : Fin 1 → IVec S16 32) a x).toNat < S100000.size a := fun v520 k0_hw1033 => k0_hw1033
def k0_off1195 (k0_t98 : Fin k0_t98_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1034 (v527 : IVec S16 32) : Prop :=
  (∀ a x, ((![v527] : Fin 1 → IVec S16 32) a x).toNat < S100000.size a)
instance k0_chk1034.dec : ∀ (v527 : IVec S16 32), Decidable (k0_chk1034 v527) := fun v527 => decidable_of_iff' _ (Iff.of_eq (k0_chk1034.eq_1 v527))
theorem k0_idx1034_inb : ∀ (v527 : IVec S16 32) (k0_hw1034 : k0_chk1034 v527), ∀ a x, ((![v527] : Fin 1 → IVec S16 32) a x).toNat < S100000.size a := fun v527 k0_hw1034 => k0_hw1034
def k0_off1196 (k0_t98 : Fin k0_t98_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1035 (v534 : IVec S16 32) : Prop :=
  (∀ a x, ((![v534] : Fin 1 → IVec S16 32) a x).toNat < S100000.size a)
instance k0_chk1035.dec : ∀ (v534 : IVec S16 32), Decidable (k0_chk1035 v534) := fun v534 => decidable_of_iff' _ (Iff.of_eq (k0_chk1035.eq_1 v534))
theorem k0_idx1035_inb : ∀ (v534 : IVec S16 32) (k0_hw1035 : k0_chk1035 v534), ∀ a x, ((![v534] : Fin 1 → IVec S16 32) a x).toNat < S100000.size a := fun v534 k0_hw1035 => k0_hw1035
def k0_off1197 (k0_t98 : Fin k0_t98_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1036 (v541 : IVec S16 32) : Prop :=
  (∀ a x, ((![v541] : Fin 1 → IVec S16 32) a x).toNat < S100000.size a)
instance k0_chk1036.dec : ∀ (v541 : IVec S16 32), Decidable (k0_chk1036 v541) := fun v541 => decidable_of_iff' _ (Iff.of_eq (k0_chk1036.eq_1 v541))
theorem k0_idx1036_inb : ∀ (v541 : IVec S16 32) (k0_hw1036 : k0_chk1036 v541), ∀ a x, ((![v541] : Fin 1 → IVec S16 32) a x).toNat < S100000.size a := fun v541 k0_hw1036 => k0_hw1036
def k0_off1198 (k0_t98 : Fin k0_t98_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1037 (v548 : IVec S16 32) : Prop :=
  (∀ a x, ((![v548] : Fin 1 → IVec S16 32) a x).toNat < S100000.size a)
instance k0_chk1037.dec : ∀ (v548 : IVec S16 32), Decidable (k0_chk1037 v548) := fun v548 => decidable_of_iff' _ (Iff.of_eq (k0_chk1037.eq_1 v548))
theorem k0_idx1037_inb : ∀ (v548 : IVec S16 32) (k0_hw1037 : k0_chk1037 v548), ∀ a x, ((![v548] : Fin 1 → IVec S16 32) a x).toNat < S100000.size a := fun v548 k0_hw1037 => k0_hw1037
def k0_off1199 (k0_t98 : Fin k0_t98_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1038 (v555 : IVec S16 32) : Prop :=
  (∀ a x, ((![v555] : Fin 1 → IVec S16 32) a x).toNat < S100000.size a)
instance k0_chk1038.dec : ∀ (v555 : IVec S16 32), Decidable (k0_chk1038 v555) := fun v555 => decidable_of_iff' _ (Iff.of_eq (k0_chk1038.eq_1 v555))
theorem k0_idx1038_inb : ∀ (v555 : IVec S16 32) (k0_hw1038 : k0_chk1038 v555), ∀ a x, ((![v555] : Fin 1 → IVec S16 32) a x).toNat < S100000.size a := fun v555 k0_hw1038 => k0_hw1038
def k0_off1200 (k0_t98 : Fin k0_t98_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1039 (v562 : IVec S16 32) : Prop :=
  (∀ a x, ((![v562] : Fin 1 → IVec S16 32) a x).toNat < S100000.size a)
instance k0_chk1039.dec : ∀ (v562 : IVec S16 32), Decidable (k0_chk1039 v562) := fun v562 => decidable_of_iff' _ (Iff.of_eq (k0_chk1039.eq_1 v562))
theorem k0_idx1039_inb : ∀ (v562 : IVec S16 32) (k0_hw1039 : k0_chk1039 v562), ∀ a x, ((![v562] : Fin 1 → IVec S16 32) a x).toNat < S100000.size a := fun v562 k0_hw1039 => k0_hw1039
def k0_off1201 (k0_t98 : Fin k0_t98_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1040 (v569 : IVec S16 32) : Prop :=
  (∀ a x, ((![v569] : Fin 1 → IVec S16 32) a x).toNat < S100000.size a)
instance k0_chk1040.dec : ∀ (v569 : IVec S16 32), Decidable (k0_chk1040 v569) := fun v569 => decidable_of_iff' _ (Iff.of_eq (k0_chk1040.eq_1 v569))
theorem k0_idx1040_inb : ∀ (v569 : IVec S16 32) (k0_hw1040 : k0_chk1040 v569), ∀ a x, ((![v569] : Fin 1 → IVec S16 32) a x).toNat < S100000.size a := fun v569 k0_hw1040 => k0_hw1040
def k0_off1202 (k0_t98 : Fin k0_t98_loop.trips) : Fin 1 → Nat :=
  let c0_i32_275 : BitVec 32 := 0#32
  let c1_i32_277 : BitVec 32 := 1#32
  let arg36 : BitVec 32 := Scf.iv c0_i32_275 c1_i32_277 k0_t98
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1203 (i : grid0.Coords) (k0_t97 : Fin (k0_t97_loop i).trips) : Fin 2 → Nat :=
  let c576_i32_279 : BitVec 32 := 576#32
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c1_i32_182 : BitVec 32 := 1#32
  let arg34 : BitVec 32 := Scf.iv v297 c1_i32_182 k0_t97
  let v457 : BitVec 32 := Scalar.addi c576_i32_279 arg34
  let c0_i32_287_r131 : BitVec 32 := 0#32
  ![v457.toNat, 0]
@[reducible] def k0_t99_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1204 (k0_t99 : Fin k0_t99_loop.trips) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1041 (v464 : IVec S16 32) : Prop :=
  (∀ a x, ((![v464] : Fin 1 → IVec S16 32) a x).toNat < S100000.size a)
instance k0_chk1041.dec : ∀ (v464 : IVec S16 32), Decidable (k0_chk1041 v464) := fun v464 => decidable_of_iff' _ (Iff.of_eq (k0_chk1041.eq_1 v464))
theorem k0_idx1041_inb : ∀ (v464 : IVec S16 32) (k0_hw1041 : k0_chk1041 v464), ∀ a x, ((![v464] : Fin 1 → IVec S16 32) a x).toNat < S100000.size a := fun v464 k0_hw1041 => k0_hw1041
def k0_off1205 (k0_t99 : Fin k0_t99_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1042 (v471 : IVec S16 32) : Prop :=
  (∀ a x, ((![v471] : Fin 1 → IVec S16 32) a x).toNat < S100000.size a)
instance k0_chk1042.dec : ∀ (v471 : IVec S16 32), Decidable (k0_chk1042 v471) := fun v471 => decidable_of_iff' _ (Iff.of_eq (k0_chk1042.eq_1 v471))
theorem k0_idx1042_inb : ∀ (v471 : IVec S16 32) (k0_hw1042 : k0_chk1042 v471), ∀ a x, ((![v471] : Fin 1 → IVec S16 32) a x).toNat < S100000.size a := fun v471 k0_hw1042 => k0_hw1042
def k0_off1206 (k0_t99 : Fin k0_t99_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1043 (v478 : IVec S16 32) : Prop :=
  (∀ a x, ((![v478] : Fin 1 → IVec S16 32) a x).toNat < S100000.size a)
instance k0_chk1043.dec : ∀ (v478 : IVec S16 32), Decidable (k0_chk1043 v478) := fun v478 => decidable_of_iff' _ (Iff.of_eq (k0_chk1043.eq_1 v478))
theorem k0_idx1043_inb : ∀ (v478 : IVec S16 32) (k0_hw1043 : k0_chk1043 v478), ∀ a x, ((![v478] : Fin 1 → IVec S16 32) a x).toNat < S100000.size a := fun v478 k0_hw1043 => k0_hw1043
def k0_off1207 (k0_t99 : Fin k0_t99_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1044 (v485 : IVec S16 32) : Prop :=
  (∀ a x, ((![v485] : Fin 1 → IVec S16 32) a x).toNat < S100000.size a)
instance k0_chk1044.dec : ∀ (v485 : IVec S16 32), Decidable (k0_chk1044 v485) := fun v485 => decidable_of_iff' _ (Iff.of_eq (k0_chk1044.eq_1 v485))
theorem k0_idx1044_inb : ∀ (v485 : IVec S16 32) (k0_hw1044 : k0_chk1044 v485), ∀ a x, ((![v485] : Fin 1 → IVec S16 32) a x).toNat < S100000.size a := fun v485 k0_hw1044 => k0_hw1044
def k0_off1208 (k0_t99 : Fin k0_t99_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1045 (v492 : IVec S16 32) : Prop :=
  (∀ a x, ((![v492] : Fin 1 → IVec S16 32) a x).toNat < S100000.size a)
instance k0_chk1045.dec : ∀ (v492 : IVec S16 32), Decidable (k0_chk1045 v492) := fun v492 => decidable_of_iff' _ (Iff.of_eq (k0_chk1045.eq_1 v492))
theorem k0_idx1045_inb : ∀ (v492 : IVec S16 32) (k0_hw1045 : k0_chk1045 v492), ∀ a x, ((![v492] : Fin 1 → IVec S16 32) a x).toNat < S100000.size a := fun v492 k0_hw1045 => k0_hw1045
def k0_off1209 (k0_t99 : Fin k0_t99_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1046 (v499 : IVec S16 32) : Prop :=
  (∀ a x, ((![v499] : Fin 1 → IVec S16 32) a x).toNat < S100000.size a)
instance k0_chk1046.dec : ∀ (v499 : IVec S16 32), Decidable (k0_chk1046 v499) := fun v499 => decidable_of_iff' _ (Iff.of_eq (k0_chk1046.eq_1 v499))
theorem k0_idx1046_inb : ∀ (v499 : IVec S16 32) (k0_hw1046 : k0_chk1046 v499), ∀ a x, ((![v499] : Fin 1 → IVec S16 32) a x).toNat < S100000.size a := fun v499 k0_hw1046 => k0_hw1046
def k0_off1210 (k0_t99 : Fin k0_t99_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1047 (v506 : IVec S16 32) : Prop :=
  (∀ a x, ((![v506] : Fin 1 → IVec S16 32) a x).toNat < S100000.size a)
instance k0_chk1047.dec : ∀ (v506 : IVec S16 32), Decidable (k0_chk1047 v506) := fun v506 => decidable_of_iff' _ (Iff.of_eq (k0_chk1047.eq_1 v506))
theorem k0_idx1047_inb : ∀ (v506 : IVec S16 32) (k0_hw1047 : k0_chk1047 v506), ∀ a x, ((![v506] : Fin 1 → IVec S16 32) a x).toNat < S100000.size a := fun v506 k0_hw1047 => k0_hw1047
def k0_off1211 (k0_t99 : Fin k0_t99_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1048 (v513 : IVec S16 32) : Prop :=
  (∀ a x, ((![v513] : Fin 1 → IVec S16 32) a x).toNat < S100000.size a)
instance k0_chk1048.dec : ∀ (v513 : IVec S16 32), Decidable (k0_chk1048 v513) := fun v513 => decidable_of_iff' _ (Iff.of_eq (k0_chk1048.eq_1 v513))
theorem k0_idx1048_inb : ∀ (v513 : IVec S16 32) (k0_hw1048 : k0_chk1048 v513), ∀ a x, ((![v513] : Fin 1 → IVec S16 32) a x).toNat < S100000.size a := fun v513 k0_hw1048 => k0_hw1048
def k0_off1212 (k0_t99 : Fin k0_t99_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1049 (v520 : IVec S16 32) : Prop :=
  (∀ a x, ((![v520] : Fin 1 → IVec S16 32) a x).toNat < S100000.size a)
instance k0_chk1049.dec : ∀ (v520 : IVec S16 32), Decidable (k0_chk1049 v520) := fun v520 => decidable_of_iff' _ (Iff.of_eq (k0_chk1049.eq_1 v520))
theorem k0_idx1049_inb : ∀ (v520 : IVec S16 32) (k0_hw1049 : k0_chk1049 v520), ∀ a x, ((![v520] : Fin 1 → IVec S16 32) a x).toNat < S100000.size a := fun v520 k0_hw1049 => k0_hw1049
def k0_off1213 (k0_t99 : Fin k0_t99_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1050 (v527 : IVec S16 32) : Prop :=
  (∀ a x, ((![v527] : Fin 1 → IVec S16 32) a x).toNat < S100000.size a)
instance k0_chk1050.dec : ∀ (v527 : IVec S16 32), Decidable (k0_chk1050 v527) := fun v527 => decidable_of_iff' _ (Iff.of_eq (k0_chk1050.eq_1 v527))
theorem k0_idx1050_inb : ∀ (v527 : IVec S16 32) (k0_hw1050 : k0_chk1050 v527), ∀ a x, ((![v527] : Fin 1 → IVec S16 32) a x).toNat < S100000.size a := fun v527 k0_hw1050 => k0_hw1050
def k0_off1214 (k0_t99 : Fin k0_t99_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1051 (v534 : IVec S16 32) : Prop :=
  (∀ a x, ((![v534] : Fin 1 → IVec S16 32) a x).toNat < S100000.size a)
instance k0_chk1051.dec : ∀ (v534 : IVec S16 32), Decidable (k0_chk1051 v534) := fun v534 => decidable_of_iff' _ (Iff.of_eq (k0_chk1051.eq_1 v534))
theorem k0_idx1051_inb : ∀ (v534 : IVec S16 32) (k0_hw1051 : k0_chk1051 v534), ∀ a x, ((![v534] : Fin 1 → IVec S16 32) a x).toNat < S100000.size a := fun v534 k0_hw1051 => k0_hw1051
def k0_off1215 (k0_t99 : Fin k0_t99_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1052 (v541 : IVec S16 32) : Prop :=
  (∀ a x, ((![v541] : Fin 1 → IVec S16 32) a x).toNat < S100000.size a)
instance k0_chk1052.dec : ∀ (v541 : IVec S16 32), Decidable (k0_chk1052 v541) := fun v541 => decidable_of_iff' _ (Iff.of_eq (k0_chk1052.eq_1 v541))
theorem k0_idx1052_inb : ∀ (v541 : IVec S16 32) (k0_hw1052 : k0_chk1052 v541), ∀ a x, ((![v541] : Fin 1 → IVec S16 32) a x).toNat < S100000.size a := fun v541 k0_hw1052 => k0_hw1052
def k0_off1216 (k0_t99 : Fin k0_t99_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1053 (v548 : IVec S16 32) : Prop :=
  (∀ a x, ((![v548] : Fin 1 → IVec S16 32) a x).toNat < S100000.size a)
instance k0_chk1053.dec : ∀ (v548 : IVec S16 32), Decidable (k0_chk1053 v548) := fun v548 => decidable_of_iff' _ (Iff.of_eq (k0_chk1053.eq_1 v548))
theorem k0_idx1053_inb : ∀ (v548 : IVec S16 32) (k0_hw1053 : k0_chk1053 v548), ∀ a x, ((![v548] : Fin 1 → IVec S16 32) a x).toNat < S100000.size a := fun v548 k0_hw1053 => k0_hw1053
def k0_off1217 (k0_t99 : Fin k0_t99_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1054 (v555 : IVec S16 32) : Prop :=
  (∀ a x, ((![v555] : Fin 1 → IVec S16 32) a x).toNat < S100000.size a)
instance k0_chk1054.dec : ∀ (v555 : IVec S16 32), Decidable (k0_chk1054 v555) := fun v555 => decidable_of_iff' _ (Iff.of_eq (k0_chk1054.eq_1 v555))
theorem k0_idx1054_inb : ∀ (v555 : IVec S16 32) (k0_hw1054 : k0_chk1054 v555), ∀ a x, ((![v555] : Fin 1 → IVec S16 32) a x).toNat < S100000.size a := fun v555 k0_hw1054 => k0_hw1054
def k0_off1218 (k0_t99 : Fin k0_t99_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1055 (v562 : IVec S16 32) : Prop :=
  (∀ a x, ((![v562] : Fin 1 → IVec S16 32) a x).toNat < S100000.size a)
instance k0_chk1055.dec : ∀ (v562 : IVec S16 32), Decidable (k0_chk1055 v562) := fun v562 => decidable_of_iff' _ (Iff.of_eq (k0_chk1055.eq_1 v562))
theorem k0_idx1055_inb : ∀ (v562 : IVec S16 32) (k0_hw1055 : k0_chk1055 v562), ∀ a x, ((![v562] : Fin 1 → IVec S16 32) a x).toNat < S100000.size a := fun v562 k0_hw1055 => k0_hw1055
def k0_off1219 (k0_t99 : Fin k0_t99_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1056 (v569 : IVec S16 32) : Prop :=
  (∀ a x, ((![v569] : Fin 1 → IVec S16 32) a x).toNat < S100000.size a)
instance k0_chk1056.dec : ∀ (v569 : IVec S16 32), Decidable (k0_chk1056 v569) := fun v569 => decidable_of_iff' _ (Iff.of_eq (k0_chk1056.eq_1 v569))
theorem k0_idx1056_inb : ∀ (v569 : IVec S16 32) (k0_hw1056 : k0_chk1056 v569), ∀ a x, ((![v569] : Fin 1 → IVec S16 32) a x).toNat < S100000.size a := fun v569 k0_hw1056 => k0_hw1056
def k0_off1220 (k0_t99 : Fin k0_t99_loop.trips) : Fin 1 → Nat :=
  let c0_i32_281 : BitVec 32 := 0#32
  let c1_i32_283 : BitVec 32 := 1#32
  let arg36 : BitVec 32 := Scf.iv c0_i32_281 c1_i32_283 k0_t99
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1221 (i : grid0.Coords) (k0_t97 : Fin (k0_t97_loop i).trips) : Fin 2 → Nat :=
  let c576_i32_285 : BitVec 32 := 576#32
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c1_i32_182 : BitVec 32 := 1#32
  let arg34 : BitVec 32 := Scf.iv v297 c1_i32_182 k0_t97
  let v460 : BitVec 32 := Scalar.addi c576_i32_285 arg34
  let c8192_i32_r132 : BitVec 32 := 8192#32
  ![v460.toNat, 8192]
@[reducible] def k0_t100_loop (i : grid0.Coords) : Scf.Loop 32 :=
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c36_i32_178 : BitVec 32 := 36#32
  let c0_i32_177 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c576_i32_176 : BitVec 32 := 576#32
  let v298 : BitVec 32 := Scalar.subi v38 c576_i32_176
  let v299 : BitVec 32 := Scalar.maxsi c0_i32_177 v298
  let v300 : BitVec 32 := Scalar.minsi c36_i32_178 v299
  let v304 : BitVec 32 := Scalar.subi v300 v297
  let c1_i32_181 : BitVec 32 := 1#32
  let v306 : BitVec 32 := Scalar.divsi v304 c1_i32_181
  let v307 : BitVec 32 := Scalar.muli v306 c1_i32_181
  let v308 : BitVec 32 := Scalar.addi v297 v307
  let v305 : BitVec 32 := Scalar.addi v297 v304
  let c1_i32_183 : BitVec 32 := 1#32
  ⟨v308, v305, c1_i32_183⟩
def k0_off1222 (i : grid0.Coords) (k0_t100 : Fin (k0_t100_loop i).trips) : Fin 2 → Nat :=
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c36_i32_178 : BitVec 32 := 36#32
  let c0_i32_177 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c576_i32_176 : BitVec 32 := 576#32
  let v298 : BitVec 32 := Scalar.subi v38 c576_i32_176
  let v299 : BitVec 32 := Scalar.maxsi c0_i32_177 v298
  let v300 : BitVec 32 := Scalar.minsi c36_i32_178 v299
  let v304 : BitVec 32 := Scalar.subi v300 v297
  let c1_i32_181 : BitVec 32 := 1#32
  let v306 : BitVec 32 := Scalar.divsi v304 c1_i32_181
  let v307 : BitVec 32 := Scalar.muli v306 c1_i32_181
  let v308 : BitVec 32 := Scalar.addi v297 v307
  let c1_i32_183 : BitVec 32 := 1#32
  let arg34 : BitVec 32 := Scf.iv v308 c1_i32_183 k0_t100
  let c0_i32_287_r133 : BitVec 32 := 0#32
  ![arg34.toNat, 0]
@[reducible] def k0_t101_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1223 (k0_t101 : Fin k0_t101_loop.trips) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1057 (v464 : IVec S16 32) : Prop :=
  (∀ a x, ((![v464] : Fin 1 → IVec S16 32) a x).toNat < S100000.size a)
instance k0_chk1057.dec : ∀ (v464 : IVec S16 32), Decidable (k0_chk1057 v464) := fun v464 => decidable_of_iff' _ (Iff.of_eq (k0_chk1057.eq_1 v464))
theorem k0_idx1057_inb : ∀ (v464 : IVec S16 32) (k0_hw1057 : k0_chk1057 v464), ∀ a x, ((![v464] : Fin 1 → IVec S16 32) a x).toNat < S100000.size a := fun v464 k0_hw1057 => k0_hw1057
def k0_off1224 (k0_t101 : Fin k0_t101_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1058 (v471 : IVec S16 32) : Prop :=
  (∀ a x, ((![v471] : Fin 1 → IVec S16 32) a x).toNat < S100000.size a)
instance k0_chk1058.dec : ∀ (v471 : IVec S16 32), Decidable (k0_chk1058 v471) := fun v471 => decidable_of_iff' _ (Iff.of_eq (k0_chk1058.eq_1 v471))
theorem k0_idx1058_inb : ∀ (v471 : IVec S16 32) (k0_hw1058 : k0_chk1058 v471), ∀ a x, ((![v471] : Fin 1 → IVec S16 32) a x).toNat < S100000.size a := fun v471 k0_hw1058 => k0_hw1058
def k0_off1225 (k0_t101 : Fin k0_t101_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1059 (v478 : IVec S16 32) : Prop :=
  (∀ a x, ((![v478] : Fin 1 → IVec S16 32) a x).toNat < S100000.size a)
instance k0_chk1059.dec : ∀ (v478 : IVec S16 32), Decidable (k0_chk1059 v478) := fun v478 => decidable_of_iff' _ (Iff.of_eq (k0_chk1059.eq_1 v478))
theorem k0_idx1059_inb : ∀ (v478 : IVec S16 32) (k0_hw1059 : k0_chk1059 v478), ∀ a x, ((![v478] : Fin 1 → IVec S16 32) a x).toNat < S100000.size a := fun v478 k0_hw1059 => k0_hw1059
def k0_off1226 (k0_t101 : Fin k0_t101_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1060 (v485 : IVec S16 32) : Prop :=
  (∀ a x, ((![v485] : Fin 1 → IVec S16 32) a x).toNat < S100000.size a)
instance k0_chk1060.dec : ∀ (v485 : IVec S16 32), Decidable (k0_chk1060 v485) := fun v485 => decidable_of_iff' _ (Iff.of_eq (k0_chk1060.eq_1 v485))
theorem k0_idx1060_inb : ∀ (v485 : IVec S16 32) (k0_hw1060 : k0_chk1060 v485), ∀ a x, ((![v485] : Fin 1 → IVec S16 32) a x).toNat < S100000.size a := fun v485 k0_hw1060 => k0_hw1060
def k0_off1227 (k0_t101 : Fin k0_t101_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1061 (v492 : IVec S16 32) : Prop :=
  (∀ a x, ((![v492] : Fin 1 → IVec S16 32) a x).toNat < S100000.size a)
instance k0_chk1061.dec : ∀ (v492 : IVec S16 32), Decidable (k0_chk1061 v492) := fun v492 => decidable_of_iff' _ (Iff.of_eq (k0_chk1061.eq_1 v492))
theorem k0_idx1061_inb : ∀ (v492 : IVec S16 32) (k0_hw1061 : k0_chk1061 v492), ∀ a x, ((![v492] : Fin 1 → IVec S16 32) a x).toNat < S100000.size a := fun v492 k0_hw1061 => k0_hw1061
def k0_off1228 (k0_t101 : Fin k0_t101_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1062 (v499 : IVec S16 32) : Prop :=
  (∀ a x, ((![v499] : Fin 1 → IVec S16 32) a x).toNat < S100000.size a)
instance k0_chk1062.dec : ∀ (v499 : IVec S16 32), Decidable (k0_chk1062 v499) := fun v499 => decidable_of_iff' _ (Iff.of_eq (k0_chk1062.eq_1 v499))
theorem k0_idx1062_inb : ∀ (v499 : IVec S16 32) (k0_hw1062 : k0_chk1062 v499), ∀ a x, ((![v499] : Fin 1 → IVec S16 32) a x).toNat < S100000.size a := fun v499 k0_hw1062 => k0_hw1062
def k0_off1229 (k0_t101 : Fin k0_t101_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1063 (v506 : IVec S16 32) : Prop :=
  (∀ a x, ((![v506] : Fin 1 → IVec S16 32) a x).toNat < S100000.size a)
instance k0_chk1063.dec : ∀ (v506 : IVec S16 32), Decidable (k0_chk1063 v506) := fun v506 => decidable_of_iff' _ (Iff.of_eq (k0_chk1063.eq_1 v506))
theorem k0_idx1063_inb : ∀ (v506 : IVec S16 32) (k0_hw1063 : k0_chk1063 v506), ∀ a x, ((![v506] : Fin 1 → IVec S16 32) a x).toNat < S100000.size a := fun v506 k0_hw1063 => k0_hw1063
def k0_off1230 (k0_t101 : Fin k0_t101_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1064 (v513 : IVec S16 32) : Prop :=
  (∀ a x, ((![v513] : Fin 1 → IVec S16 32) a x).toNat < S100000.size a)
instance k0_chk1064.dec : ∀ (v513 : IVec S16 32), Decidable (k0_chk1064 v513) := fun v513 => decidable_of_iff' _ (Iff.of_eq (k0_chk1064.eq_1 v513))
theorem k0_idx1064_inb : ∀ (v513 : IVec S16 32) (k0_hw1064 : k0_chk1064 v513), ∀ a x, ((![v513] : Fin 1 → IVec S16 32) a x).toNat < S100000.size a := fun v513 k0_hw1064 => k0_hw1064
def k0_off1231 (k0_t101 : Fin k0_t101_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1065 (v520 : IVec S16 32) : Prop :=
  (∀ a x, ((![v520] : Fin 1 → IVec S16 32) a x).toNat < S100000.size a)
instance k0_chk1065.dec : ∀ (v520 : IVec S16 32), Decidable (k0_chk1065 v520) := fun v520 => decidable_of_iff' _ (Iff.of_eq (k0_chk1065.eq_1 v520))
theorem k0_idx1065_inb : ∀ (v520 : IVec S16 32) (k0_hw1065 : k0_chk1065 v520), ∀ a x, ((![v520] : Fin 1 → IVec S16 32) a x).toNat < S100000.size a := fun v520 k0_hw1065 => k0_hw1065
def k0_off1232 (k0_t101 : Fin k0_t101_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1066 (v527 : IVec S16 32) : Prop :=
  (∀ a x, ((![v527] : Fin 1 → IVec S16 32) a x).toNat < S100000.size a)
instance k0_chk1066.dec : ∀ (v527 : IVec S16 32), Decidable (k0_chk1066 v527) := fun v527 => decidable_of_iff' _ (Iff.of_eq (k0_chk1066.eq_1 v527))
theorem k0_idx1066_inb : ∀ (v527 : IVec S16 32) (k0_hw1066 : k0_chk1066 v527), ∀ a x, ((![v527] : Fin 1 → IVec S16 32) a x).toNat < S100000.size a := fun v527 k0_hw1066 => k0_hw1066
def k0_off1233 (k0_t101 : Fin k0_t101_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1067 (v534 : IVec S16 32) : Prop :=
  (∀ a x, ((![v534] : Fin 1 → IVec S16 32) a x).toNat < S100000.size a)
instance k0_chk1067.dec : ∀ (v534 : IVec S16 32), Decidable (k0_chk1067 v534) := fun v534 => decidable_of_iff' _ (Iff.of_eq (k0_chk1067.eq_1 v534))
theorem k0_idx1067_inb : ∀ (v534 : IVec S16 32) (k0_hw1067 : k0_chk1067 v534), ∀ a x, ((![v534] : Fin 1 → IVec S16 32) a x).toNat < S100000.size a := fun v534 k0_hw1067 => k0_hw1067
def k0_off1234 (k0_t101 : Fin k0_t101_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1068 (v541 : IVec S16 32) : Prop :=
  (∀ a x, ((![v541] : Fin 1 → IVec S16 32) a x).toNat < S100000.size a)
instance k0_chk1068.dec : ∀ (v541 : IVec S16 32), Decidable (k0_chk1068 v541) := fun v541 => decidable_of_iff' _ (Iff.of_eq (k0_chk1068.eq_1 v541))
theorem k0_idx1068_inb : ∀ (v541 : IVec S16 32) (k0_hw1068 : k0_chk1068 v541), ∀ a x, ((![v541] : Fin 1 → IVec S16 32) a x).toNat < S100000.size a := fun v541 k0_hw1068 => k0_hw1068
def k0_off1235 (k0_t101 : Fin k0_t101_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1069 (v548 : IVec S16 32) : Prop :=
  (∀ a x, ((![v548] : Fin 1 → IVec S16 32) a x).toNat < S100000.size a)
instance k0_chk1069.dec : ∀ (v548 : IVec S16 32), Decidable (k0_chk1069 v548) := fun v548 => decidable_of_iff' _ (Iff.of_eq (k0_chk1069.eq_1 v548))
theorem k0_idx1069_inb : ∀ (v548 : IVec S16 32) (k0_hw1069 : k0_chk1069 v548), ∀ a x, ((![v548] : Fin 1 → IVec S16 32) a x).toNat < S100000.size a := fun v548 k0_hw1069 => k0_hw1069
def k0_off1236 (k0_t101 : Fin k0_t101_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1070 (v555 : IVec S16 32) : Prop :=
  (∀ a x, ((![v555] : Fin 1 → IVec S16 32) a x).toNat < S100000.size a)
instance k0_chk1070.dec : ∀ (v555 : IVec S16 32), Decidable (k0_chk1070 v555) := fun v555 => decidable_of_iff' _ (Iff.of_eq (k0_chk1070.eq_1 v555))
theorem k0_idx1070_inb : ∀ (v555 : IVec S16 32) (k0_hw1070 : k0_chk1070 v555), ∀ a x, ((![v555] : Fin 1 → IVec S16 32) a x).toNat < S100000.size a := fun v555 k0_hw1070 => k0_hw1070
def k0_off1237 (k0_t101 : Fin k0_t101_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1071 (v562 : IVec S16 32) : Prop :=
  (∀ a x, ((![v562] : Fin 1 → IVec S16 32) a x).toNat < S100000.size a)
instance k0_chk1071.dec : ∀ (v562 : IVec S16 32), Decidable (k0_chk1071 v562) := fun v562 => decidable_of_iff' _ (Iff.of_eq (k0_chk1071.eq_1 v562))
theorem k0_idx1071_inb : ∀ (v562 : IVec S16 32) (k0_hw1071 : k0_chk1071 v562), ∀ a x, ((![v562] : Fin 1 → IVec S16 32) a x).toNat < S100000.size a := fun v562 k0_hw1071 => k0_hw1071
def k0_off1238 (k0_t101 : Fin k0_t101_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1072 (v569 : IVec S16 32) : Prop :=
  (∀ a x, ((![v569] : Fin 1 → IVec S16 32) a x).toNat < S100000.size a)
instance k0_chk1072.dec : ∀ (v569 : IVec S16 32), Decidable (k0_chk1072 v569) := fun v569 => decidable_of_iff' _ (Iff.of_eq (k0_chk1072.eq_1 v569))
theorem k0_idx1072_inb : ∀ (v569 : IVec S16 32) (k0_hw1072 : k0_chk1072 v569), ∀ a x, ((![v569] : Fin 1 → IVec S16 32) a x).toNat < S100000.size a := fun v569 k0_hw1072 => k0_hw1072
def k0_off1239 (k0_t101 : Fin k0_t101_loop.trips) : Fin 1 → Nat :=
  let c0_i32_275 : BitVec 32 := 0#32
  let c1_i32_277 : BitVec 32 := 1#32
  let arg36 : BitVec 32 := Scf.iv c0_i32_275 c1_i32_277 k0_t101
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1240 (i : grid0.Coords) (k0_t100 : Fin (k0_t100_loop i).trips) : Fin 2 → Nat :=
  let c576_i32_279 : BitVec 32 := 576#32
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c36_i32_178 : BitVec 32 := 36#32
  let c0_i32_177 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c576_i32_176 : BitVec 32 := 576#32
  let v298 : BitVec 32 := Scalar.subi v38 c576_i32_176
  let v299 : BitVec 32 := Scalar.maxsi c0_i32_177 v298
  let v300 : BitVec 32 := Scalar.minsi c36_i32_178 v299
  let v304 : BitVec 32 := Scalar.subi v300 v297
  let c1_i32_181 : BitVec 32 := 1#32
  let v306 : BitVec 32 := Scalar.divsi v304 c1_i32_181
  let v307 : BitVec 32 := Scalar.muli v306 c1_i32_181
  let v308 : BitVec 32 := Scalar.addi v297 v307
  let c1_i32_183 : BitVec 32 := 1#32
  let arg34 : BitVec 32 := Scf.iv v308 c1_i32_183 k0_t100
  let v457 : BitVec 32 := Scalar.addi c576_i32_279 arg34
  let c0_i32_287_r134 : BitVec 32 := 0#32
  ![v457.toNat, 0]
@[reducible] def k0_t102_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1241 (k0_t102 : Fin k0_t102_loop.trips) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1073 (v464 : IVec S16 32) : Prop :=
  (∀ a x, ((![v464] : Fin 1 → IVec S16 32) a x).toNat < S100000.size a)
instance k0_chk1073.dec : ∀ (v464 : IVec S16 32), Decidable (k0_chk1073 v464) := fun v464 => decidable_of_iff' _ (Iff.of_eq (k0_chk1073.eq_1 v464))
theorem k0_idx1073_inb : ∀ (v464 : IVec S16 32) (k0_hw1073 : k0_chk1073 v464), ∀ a x, ((![v464] : Fin 1 → IVec S16 32) a x).toNat < S100000.size a := fun v464 k0_hw1073 => k0_hw1073
def k0_off1242 (k0_t102 : Fin k0_t102_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1074 (v471 : IVec S16 32) : Prop :=
  (∀ a x, ((![v471] : Fin 1 → IVec S16 32) a x).toNat < S100000.size a)
instance k0_chk1074.dec : ∀ (v471 : IVec S16 32), Decidable (k0_chk1074 v471) := fun v471 => decidable_of_iff' _ (Iff.of_eq (k0_chk1074.eq_1 v471))
theorem k0_idx1074_inb : ∀ (v471 : IVec S16 32) (k0_hw1074 : k0_chk1074 v471), ∀ a x, ((![v471] : Fin 1 → IVec S16 32) a x).toNat < S100000.size a := fun v471 k0_hw1074 => k0_hw1074
def k0_off1243 (k0_t102 : Fin k0_t102_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1075 (v478 : IVec S16 32) : Prop :=
  (∀ a x, ((![v478] : Fin 1 → IVec S16 32) a x).toNat < S100000.size a)
instance k0_chk1075.dec : ∀ (v478 : IVec S16 32), Decidable (k0_chk1075 v478) := fun v478 => decidable_of_iff' _ (Iff.of_eq (k0_chk1075.eq_1 v478))
theorem k0_idx1075_inb : ∀ (v478 : IVec S16 32) (k0_hw1075 : k0_chk1075 v478), ∀ a x, ((![v478] : Fin 1 → IVec S16 32) a x).toNat < S100000.size a := fun v478 k0_hw1075 => k0_hw1075
def k0_off1244 (k0_t102 : Fin k0_t102_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1076 (v485 : IVec S16 32) : Prop :=
  (∀ a x, ((![v485] : Fin 1 → IVec S16 32) a x).toNat < S100000.size a)
instance k0_chk1076.dec : ∀ (v485 : IVec S16 32), Decidable (k0_chk1076 v485) := fun v485 => decidable_of_iff' _ (Iff.of_eq (k0_chk1076.eq_1 v485))
theorem k0_idx1076_inb : ∀ (v485 : IVec S16 32) (k0_hw1076 : k0_chk1076 v485), ∀ a x, ((![v485] : Fin 1 → IVec S16 32) a x).toNat < S100000.size a := fun v485 k0_hw1076 => k0_hw1076
def k0_off1245 (k0_t102 : Fin k0_t102_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1077 (v492 : IVec S16 32) : Prop :=
  (∀ a x, ((![v492] : Fin 1 → IVec S16 32) a x).toNat < S100000.size a)
instance k0_chk1077.dec : ∀ (v492 : IVec S16 32), Decidable (k0_chk1077 v492) := fun v492 => decidable_of_iff' _ (Iff.of_eq (k0_chk1077.eq_1 v492))
theorem k0_idx1077_inb : ∀ (v492 : IVec S16 32) (k0_hw1077 : k0_chk1077 v492), ∀ a x, ((![v492] : Fin 1 → IVec S16 32) a x).toNat < S100000.size a := fun v492 k0_hw1077 => k0_hw1077
def k0_off1246 (k0_t102 : Fin k0_t102_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1078 (v499 : IVec S16 32) : Prop :=
  (∀ a x, ((![v499] : Fin 1 → IVec S16 32) a x).toNat < S100000.size a)
instance k0_chk1078.dec : ∀ (v499 : IVec S16 32), Decidable (k0_chk1078 v499) := fun v499 => decidable_of_iff' _ (Iff.of_eq (k0_chk1078.eq_1 v499))
theorem k0_idx1078_inb : ∀ (v499 : IVec S16 32) (k0_hw1078 : k0_chk1078 v499), ∀ a x, ((![v499] : Fin 1 → IVec S16 32) a x).toNat < S100000.size a := fun v499 k0_hw1078 => k0_hw1078
def k0_off1247 (k0_t102 : Fin k0_t102_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1079 (v506 : IVec S16 32) : Prop :=
  (∀ a x, ((![v506] : Fin 1 → IVec S16 32) a x).toNat < S100000.size a)
instance k0_chk1079.dec : ∀ (v506 : IVec S16 32), Decidable (k0_chk1079 v506) := fun v506 => decidable_of_iff' _ (Iff.of_eq (k0_chk1079.eq_1 v506))
theorem k0_idx1079_inb : ∀ (v506 : IVec S16 32) (k0_hw1079 : k0_chk1079 v506), ∀ a x, ((![v506] : Fin 1 → IVec S16 32) a x).toNat < S100000.size a := fun v506 k0_hw1079 => k0_hw1079
def k0_off1248 (k0_t102 : Fin k0_t102_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1080 (v513 : IVec S16 32) : Prop :=
  (∀ a x, ((![v513] : Fin 1 → IVec S16 32) a x).toNat < S100000.size a)
instance k0_chk1080.dec : ∀ (v513 : IVec S16 32), Decidable (k0_chk1080 v513) := fun v513 => decidable_of_iff' _ (Iff.of_eq (k0_chk1080.eq_1 v513))
theorem k0_idx1080_inb : ∀ (v513 : IVec S16 32) (k0_hw1080 : k0_chk1080 v513), ∀ a x, ((![v513] : Fin 1 → IVec S16 32) a x).toNat < S100000.size a := fun v513 k0_hw1080 => k0_hw1080
def k0_off1249 (k0_t102 : Fin k0_t102_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1081 (v520 : IVec S16 32) : Prop :=
  (∀ a x, ((![v520] : Fin 1 → IVec S16 32) a x).toNat < S100000.size a)
instance k0_chk1081.dec : ∀ (v520 : IVec S16 32), Decidable (k0_chk1081 v520) := fun v520 => decidable_of_iff' _ (Iff.of_eq (k0_chk1081.eq_1 v520))
theorem k0_idx1081_inb : ∀ (v520 : IVec S16 32) (k0_hw1081 : k0_chk1081 v520), ∀ a x, ((![v520] : Fin 1 → IVec S16 32) a x).toNat < S100000.size a := fun v520 k0_hw1081 => k0_hw1081
def k0_off1250 (k0_t102 : Fin k0_t102_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1082 (v527 : IVec S16 32) : Prop :=
  (∀ a x, ((![v527] : Fin 1 → IVec S16 32) a x).toNat < S100000.size a)
instance k0_chk1082.dec : ∀ (v527 : IVec S16 32), Decidable (k0_chk1082 v527) := fun v527 => decidable_of_iff' _ (Iff.of_eq (k0_chk1082.eq_1 v527))
theorem k0_idx1082_inb : ∀ (v527 : IVec S16 32) (k0_hw1082 : k0_chk1082 v527), ∀ a x, ((![v527] : Fin 1 → IVec S16 32) a x).toNat < S100000.size a := fun v527 k0_hw1082 => k0_hw1082
def k0_off1251 (k0_t102 : Fin k0_t102_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1083 (v534 : IVec S16 32) : Prop :=
  (∀ a x, ((![v534] : Fin 1 → IVec S16 32) a x).toNat < S100000.size a)
instance k0_chk1083.dec : ∀ (v534 : IVec S16 32), Decidable (k0_chk1083 v534) := fun v534 => decidable_of_iff' _ (Iff.of_eq (k0_chk1083.eq_1 v534))
theorem k0_idx1083_inb : ∀ (v534 : IVec S16 32) (k0_hw1083 : k0_chk1083 v534), ∀ a x, ((![v534] : Fin 1 → IVec S16 32) a x).toNat < S100000.size a := fun v534 k0_hw1083 => k0_hw1083
def k0_off1252 (k0_t102 : Fin k0_t102_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1084 (v541 : IVec S16 32) : Prop :=
  (∀ a x, ((![v541] : Fin 1 → IVec S16 32) a x).toNat < S100000.size a)
instance k0_chk1084.dec : ∀ (v541 : IVec S16 32), Decidable (k0_chk1084 v541) := fun v541 => decidable_of_iff' _ (Iff.of_eq (k0_chk1084.eq_1 v541))
theorem k0_idx1084_inb : ∀ (v541 : IVec S16 32) (k0_hw1084 : k0_chk1084 v541), ∀ a x, ((![v541] : Fin 1 → IVec S16 32) a x).toNat < S100000.size a := fun v541 k0_hw1084 => k0_hw1084
def k0_off1253 (k0_t102 : Fin k0_t102_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1085 (v548 : IVec S16 32) : Prop :=
  (∀ a x, ((![v548] : Fin 1 → IVec S16 32) a x).toNat < S100000.size a)
instance k0_chk1085.dec : ∀ (v548 : IVec S16 32), Decidable (k0_chk1085 v548) := fun v548 => decidable_of_iff' _ (Iff.of_eq (k0_chk1085.eq_1 v548))
theorem k0_idx1085_inb : ∀ (v548 : IVec S16 32) (k0_hw1085 : k0_chk1085 v548), ∀ a x, ((![v548] : Fin 1 → IVec S16 32) a x).toNat < S100000.size a := fun v548 k0_hw1085 => k0_hw1085
def k0_off1254 (k0_t102 : Fin k0_t102_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1086 (v555 : IVec S16 32) : Prop :=
  (∀ a x, ((![v555] : Fin 1 → IVec S16 32) a x).toNat < S100000.size a)
instance k0_chk1086.dec : ∀ (v555 : IVec S16 32), Decidable (k0_chk1086 v555) := fun v555 => decidable_of_iff' _ (Iff.of_eq (k0_chk1086.eq_1 v555))
theorem k0_idx1086_inb : ∀ (v555 : IVec S16 32) (k0_hw1086 : k0_chk1086 v555), ∀ a x, ((![v555] : Fin 1 → IVec S16 32) a x).toNat < S100000.size a := fun v555 k0_hw1086 => k0_hw1086
def k0_off1255 (k0_t102 : Fin k0_t102_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1087 (v562 : IVec S16 32) : Prop :=
  (∀ a x, ((![v562] : Fin 1 → IVec S16 32) a x).toNat < S100000.size a)
instance k0_chk1087.dec : ∀ (v562 : IVec S16 32), Decidable (k0_chk1087 v562) := fun v562 => decidable_of_iff' _ (Iff.of_eq (k0_chk1087.eq_1 v562))
theorem k0_idx1087_inb : ∀ (v562 : IVec S16 32) (k0_hw1087 : k0_chk1087 v562), ∀ a x, ((![v562] : Fin 1 → IVec S16 32) a x).toNat < S100000.size a := fun v562 k0_hw1087 => k0_hw1087
def k0_off1256 (k0_t102 : Fin k0_t102_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1088 (v569 : IVec S16 32) : Prop :=
  (∀ a x, ((![v569] : Fin 1 → IVec S16 32) a x).toNat < S100000.size a)
instance k0_chk1088.dec : ∀ (v569 : IVec S16 32), Decidable (k0_chk1088 v569) := fun v569 => decidable_of_iff' _ (Iff.of_eq (k0_chk1088.eq_1 v569))
theorem k0_idx1088_inb : ∀ (v569 : IVec S16 32) (k0_hw1088 : k0_chk1088 v569), ∀ a x, ((![v569] : Fin 1 → IVec S16 32) a x).toNat < S100000.size a := fun v569 k0_hw1088 => k0_hw1088
def k0_off1257 (k0_t102 : Fin k0_t102_loop.trips) : Fin 1 → Nat :=
  let c0_i32_281 : BitVec 32 := 0#32
  let c1_i32_283 : BitVec 32 := 1#32
  let arg36 : BitVec 32 := Scf.iv c0_i32_281 c1_i32_283 k0_t102
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1258 (i : grid0.Coords) (k0_t100 : Fin (k0_t100_loop i).trips) : Fin 2 → Nat :=
  let c576_i32_285 : BitVec 32 := 576#32
  let c36_i32_175 : BitVec 32 := 36#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c576_i32 : BitVec 32 := 576#32
  let v295 : BitVec 32 := Scalar.subi v19 c576_i32
  let v296 : BitVec 32 := Scalar.maxsi c0_i32_174 v295
  let v297 : BitVec 32 := Scalar.minsi c36_i32_175 v296
  let c36_i32_178 : BitVec 32 := 36#32
  let c0_i32_177 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c576_i32_176 : BitVec 32 := 576#32
  let v298 : BitVec 32 := Scalar.subi v38 c576_i32_176
  let v299 : BitVec 32 := Scalar.maxsi c0_i32_177 v298
  let v300 : BitVec 32 := Scalar.minsi c36_i32_178 v299
  let v304 : BitVec 32 := Scalar.subi v300 v297
  let c1_i32_181 : BitVec 32 := 1#32
  let v306 : BitVec 32 := Scalar.divsi v304 c1_i32_181
  let v307 : BitVec 32 := Scalar.muli v306 c1_i32_181
  let v308 : BitVec 32 := Scalar.addi v297 v307
  let c1_i32_183 : BitVec 32 := 1#32
  let arg34 : BitVec 32 := Scf.iv v308 c1_i32_183 k0_t100
  let v460 : BitVec 32 := Scalar.addi c576_i32_285 arg34
  let c8192_i32_r135 : BitVec 32 := 8192#32
  ![v460.toNat, 8192]
@[reducible] def k0_t103_loop (i : grid0.Coords) : Scf.Loop 32 :=
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c36_i32_188 : BitVec 32 := 36#32
  let c0_i32_187 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c612_i32_186 : BitVec 32 := 612#32
  let v314 : BitVec 32 := Scalar.subi v38 c612_i32_186
  let v315 : BitVec 32 := Scalar.maxsi c0_i32_187 v314
  let v316 : BitVec 32 := Scalar.minsi c36_i32_188 v315
  let v320 : BitVec 32 := Scalar.subi v316 v313
  let c1_i32_191 : BitVec 32 := 1#32
  let v322 : BitVec 32 := Scalar.divsi v320 c1_i32_191
  let v323 : BitVec 32 := Scalar.muli v322 c1_i32_191
  let v324 : BitVec 32 := Scalar.addi v313 v323
  let c1_i32_192 : BitVec 32 := 1#32
  ⟨v313, v324, c1_i32_192⟩
def k0_off1259 (i : grid0.Coords) (k0_t103 : Fin (k0_t103_loop i).trips) : Fin 2 → Nat :=
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c1_i32_192 : BitVec 32 := 1#32
  let arg34 : BitVec 32 := Scf.iv v313 c1_i32_192 k0_t103
  let c0_i32_287_r138 : BitVec 32 := 0#32
  ![arg34.toNat, 0]
@[reducible] def k0_t104_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1260 (k0_t104 : Fin k0_t104_loop.trips) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1089 (v464 : IVec S16 32) : Prop :=
  (∀ a x, ((![v464] : Fin 1 → IVec S16 32) a x).toNat < S100000.size a)
instance k0_chk1089.dec : ∀ (v464 : IVec S16 32), Decidable (k0_chk1089 v464) := fun v464 => decidable_of_iff' _ (Iff.of_eq (k0_chk1089.eq_1 v464))
theorem k0_idx1089_inb : ∀ (v464 : IVec S16 32) (k0_hw1089 : k0_chk1089 v464), ∀ a x, ((![v464] : Fin 1 → IVec S16 32) a x).toNat < S100000.size a := fun v464 k0_hw1089 => k0_hw1089
def k0_off1261 (k0_t104 : Fin k0_t104_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1090 (v471 : IVec S16 32) : Prop :=
  (∀ a x, ((![v471] : Fin 1 → IVec S16 32) a x).toNat < S100000.size a)
instance k0_chk1090.dec : ∀ (v471 : IVec S16 32), Decidable (k0_chk1090 v471) := fun v471 => decidable_of_iff' _ (Iff.of_eq (k0_chk1090.eq_1 v471))
theorem k0_idx1090_inb : ∀ (v471 : IVec S16 32) (k0_hw1090 : k0_chk1090 v471), ∀ a x, ((![v471] : Fin 1 → IVec S16 32) a x).toNat < S100000.size a := fun v471 k0_hw1090 => k0_hw1090
def k0_off1262 (k0_t104 : Fin k0_t104_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1091 (v478 : IVec S16 32) : Prop :=
  (∀ a x, ((![v478] : Fin 1 → IVec S16 32) a x).toNat < S100000.size a)
instance k0_chk1091.dec : ∀ (v478 : IVec S16 32), Decidable (k0_chk1091 v478) := fun v478 => decidable_of_iff' _ (Iff.of_eq (k0_chk1091.eq_1 v478))
theorem k0_idx1091_inb : ∀ (v478 : IVec S16 32) (k0_hw1091 : k0_chk1091 v478), ∀ a x, ((![v478] : Fin 1 → IVec S16 32) a x).toNat < S100000.size a := fun v478 k0_hw1091 => k0_hw1091
def k0_off1263 (k0_t104 : Fin k0_t104_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1092 (v485 : IVec S16 32) : Prop :=
  (∀ a x, ((![v485] : Fin 1 → IVec S16 32) a x).toNat < S100000.size a)
instance k0_chk1092.dec : ∀ (v485 : IVec S16 32), Decidable (k0_chk1092 v485) := fun v485 => decidable_of_iff' _ (Iff.of_eq (k0_chk1092.eq_1 v485))
theorem k0_idx1092_inb : ∀ (v485 : IVec S16 32) (k0_hw1092 : k0_chk1092 v485), ∀ a x, ((![v485] : Fin 1 → IVec S16 32) a x).toNat < S100000.size a := fun v485 k0_hw1092 => k0_hw1092
def k0_off1264 (k0_t104 : Fin k0_t104_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1093 (v492 : IVec S16 32) : Prop :=
  (∀ a x, ((![v492] : Fin 1 → IVec S16 32) a x).toNat < S100000.size a)
instance k0_chk1093.dec : ∀ (v492 : IVec S16 32), Decidable (k0_chk1093 v492) := fun v492 => decidable_of_iff' _ (Iff.of_eq (k0_chk1093.eq_1 v492))
theorem k0_idx1093_inb : ∀ (v492 : IVec S16 32) (k0_hw1093 : k0_chk1093 v492), ∀ a x, ((![v492] : Fin 1 → IVec S16 32) a x).toNat < S100000.size a := fun v492 k0_hw1093 => k0_hw1093
def k0_off1265 (k0_t104 : Fin k0_t104_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1094 (v499 : IVec S16 32) : Prop :=
  (∀ a x, ((![v499] : Fin 1 → IVec S16 32) a x).toNat < S100000.size a)
instance k0_chk1094.dec : ∀ (v499 : IVec S16 32), Decidable (k0_chk1094 v499) := fun v499 => decidable_of_iff' _ (Iff.of_eq (k0_chk1094.eq_1 v499))
theorem k0_idx1094_inb : ∀ (v499 : IVec S16 32) (k0_hw1094 : k0_chk1094 v499), ∀ a x, ((![v499] : Fin 1 → IVec S16 32) a x).toNat < S100000.size a := fun v499 k0_hw1094 => k0_hw1094
def k0_off1266 (k0_t104 : Fin k0_t104_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1095 (v506 : IVec S16 32) : Prop :=
  (∀ a x, ((![v506] : Fin 1 → IVec S16 32) a x).toNat < S100000.size a)
instance k0_chk1095.dec : ∀ (v506 : IVec S16 32), Decidable (k0_chk1095 v506) := fun v506 => decidable_of_iff' _ (Iff.of_eq (k0_chk1095.eq_1 v506))
theorem k0_idx1095_inb : ∀ (v506 : IVec S16 32) (k0_hw1095 : k0_chk1095 v506), ∀ a x, ((![v506] : Fin 1 → IVec S16 32) a x).toNat < S100000.size a := fun v506 k0_hw1095 => k0_hw1095
def k0_off1267 (k0_t104 : Fin k0_t104_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1096 (v513 : IVec S16 32) : Prop :=
  (∀ a x, ((![v513] : Fin 1 → IVec S16 32) a x).toNat < S100000.size a)
instance k0_chk1096.dec : ∀ (v513 : IVec S16 32), Decidable (k0_chk1096 v513) := fun v513 => decidable_of_iff' _ (Iff.of_eq (k0_chk1096.eq_1 v513))
theorem k0_idx1096_inb : ∀ (v513 : IVec S16 32) (k0_hw1096 : k0_chk1096 v513), ∀ a x, ((![v513] : Fin 1 → IVec S16 32) a x).toNat < S100000.size a := fun v513 k0_hw1096 => k0_hw1096
def k0_off1268 (k0_t104 : Fin k0_t104_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1097 (v520 : IVec S16 32) : Prop :=
  (∀ a x, ((![v520] : Fin 1 → IVec S16 32) a x).toNat < S100000.size a)
instance k0_chk1097.dec : ∀ (v520 : IVec S16 32), Decidable (k0_chk1097 v520) := fun v520 => decidable_of_iff' _ (Iff.of_eq (k0_chk1097.eq_1 v520))
theorem k0_idx1097_inb : ∀ (v520 : IVec S16 32) (k0_hw1097 : k0_chk1097 v520), ∀ a x, ((![v520] : Fin 1 → IVec S16 32) a x).toNat < S100000.size a := fun v520 k0_hw1097 => k0_hw1097
def k0_off1269 (k0_t104 : Fin k0_t104_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1098 (v527 : IVec S16 32) : Prop :=
  (∀ a x, ((![v527] : Fin 1 → IVec S16 32) a x).toNat < S100000.size a)
instance k0_chk1098.dec : ∀ (v527 : IVec S16 32), Decidable (k0_chk1098 v527) := fun v527 => decidable_of_iff' _ (Iff.of_eq (k0_chk1098.eq_1 v527))
theorem k0_idx1098_inb : ∀ (v527 : IVec S16 32) (k0_hw1098 : k0_chk1098 v527), ∀ a x, ((![v527] : Fin 1 → IVec S16 32) a x).toNat < S100000.size a := fun v527 k0_hw1098 => k0_hw1098
def k0_off1270 (k0_t104 : Fin k0_t104_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1099 (v534 : IVec S16 32) : Prop :=
  (∀ a x, ((![v534] : Fin 1 → IVec S16 32) a x).toNat < S100000.size a)
instance k0_chk1099.dec : ∀ (v534 : IVec S16 32), Decidable (k0_chk1099 v534) := fun v534 => decidable_of_iff' _ (Iff.of_eq (k0_chk1099.eq_1 v534))
theorem k0_idx1099_inb : ∀ (v534 : IVec S16 32) (k0_hw1099 : k0_chk1099 v534), ∀ a x, ((![v534] : Fin 1 → IVec S16 32) a x).toNat < S100000.size a := fun v534 k0_hw1099 => k0_hw1099
def k0_off1271 (k0_t104 : Fin k0_t104_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1100 (v541 : IVec S16 32) : Prop :=
  (∀ a x, ((![v541] : Fin 1 → IVec S16 32) a x).toNat < S100000.size a)
instance k0_chk1100.dec : ∀ (v541 : IVec S16 32), Decidable (k0_chk1100 v541) := fun v541 => decidable_of_iff' _ (Iff.of_eq (k0_chk1100.eq_1 v541))
theorem k0_idx1100_inb : ∀ (v541 : IVec S16 32) (k0_hw1100 : k0_chk1100 v541), ∀ a x, ((![v541] : Fin 1 → IVec S16 32) a x).toNat < S100000.size a := fun v541 k0_hw1100 => k0_hw1100
def k0_off1272 (k0_t104 : Fin k0_t104_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1101 (v548 : IVec S16 32) : Prop :=
  (∀ a x, ((![v548] : Fin 1 → IVec S16 32) a x).toNat < S100000.size a)
instance k0_chk1101.dec : ∀ (v548 : IVec S16 32), Decidable (k0_chk1101 v548) := fun v548 => decidable_of_iff' _ (Iff.of_eq (k0_chk1101.eq_1 v548))
theorem k0_idx1101_inb : ∀ (v548 : IVec S16 32) (k0_hw1101 : k0_chk1101 v548), ∀ a x, ((![v548] : Fin 1 → IVec S16 32) a x).toNat < S100000.size a := fun v548 k0_hw1101 => k0_hw1101
def k0_off1273 (k0_t104 : Fin k0_t104_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1102 (v555 : IVec S16 32) : Prop :=
  (∀ a x, ((![v555] : Fin 1 → IVec S16 32) a x).toNat < S100000.size a)
instance k0_chk1102.dec : ∀ (v555 : IVec S16 32), Decidable (k0_chk1102 v555) := fun v555 => decidable_of_iff' _ (Iff.of_eq (k0_chk1102.eq_1 v555))
theorem k0_idx1102_inb : ∀ (v555 : IVec S16 32) (k0_hw1102 : k0_chk1102 v555), ∀ a x, ((![v555] : Fin 1 → IVec S16 32) a x).toNat < S100000.size a := fun v555 k0_hw1102 => k0_hw1102
def k0_off1274 (k0_t104 : Fin k0_t104_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1103 (v562 : IVec S16 32) : Prop :=
  (∀ a x, ((![v562] : Fin 1 → IVec S16 32) a x).toNat < S100000.size a)
instance k0_chk1103.dec : ∀ (v562 : IVec S16 32), Decidable (k0_chk1103 v562) := fun v562 => decidable_of_iff' _ (Iff.of_eq (k0_chk1103.eq_1 v562))
theorem k0_idx1103_inb : ∀ (v562 : IVec S16 32) (k0_hw1103 : k0_chk1103 v562), ∀ a x, ((![v562] : Fin 1 → IVec S16 32) a x).toNat < S100000.size a := fun v562 k0_hw1103 => k0_hw1103
def k0_off1275 (k0_t104 : Fin k0_t104_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1104 (v569 : IVec S16 32) : Prop :=
  (∀ a x, ((![v569] : Fin 1 → IVec S16 32) a x).toNat < S100000.size a)
instance k0_chk1104.dec : ∀ (v569 : IVec S16 32), Decidable (k0_chk1104 v569) := fun v569 => decidable_of_iff' _ (Iff.of_eq (k0_chk1104.eq_1 v569))
theorem k0_idx1104_inb : ∀ (v569 : IVec S16 32) (k0_hw1104 : k0_chk1104 v569), ∀ a x, ((![v569] : Fin 1 → IVec S16 32) a x).toNat < S100000.size a := fun v569 k0_hw1104 => k0_hw1104
def k0_off1276 (k0_t104 : Fin k0_t104_loop.trips) : Fin 1 → Nat :=
  let c0_i32_275 : BitVec 32 := 0#32
  let c1_i32_277 : BitVec 32 := 1#32
  let arg36 : BitVec 32 := Scf.iv c0_i32_275 c1_i32_277 k0_t104
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1277 (i : grid0.Coords) (k0_t103 : Fin (k0_t103_loop i).trips) : Fin 2 → Nat :=
  let c612_i32_279 : BitVec 32 := 612#32
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c1_i32_192 : BitVec 32 := 1#32
  let arg34 : BitVec 32 := Scf.iv v313 c1_i32_192 k0_t103
  let v457 : BitVec 32 := Scalar.addi c612_i32_279 arg34
  let c0_i32_287_r139 : BitVec 32 := 0#32
  ![v457.toNat, 0]
@[reducible] def k0_t105_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1278 (k0_t105 : Fin k0_t105_loop.trips) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1105 (v464 : IVec S16 32) : Prop :=
  (∀ a x, ((![v464] : Fin 1 → IVec S16 32) a x).toNat < S100000.size a)
instance k0_chk1105.dec : ∀ (v464 : IVec S16 32), Decidable (k0_chk1105 v464) := fun v464 => decidable_of_iff' _ (Iff.of_eq (k0_chk1105.eq_1 v464))
theorem k0_idx1105_inb : ∀ (v464 : IVec S16 32) (k0_hw1105 : k0_chk1105 v464), ∀ a x, ((![v464] : Fin 1 → IVec S16 32) a x).toNat < S100000.size a := fun v464 k0_hw1105 => k0_hw1105
def k0_off1279 (k0_t105 : Fin k0_t105_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1106 (v471 : IVec S16 32) : Prop :=
  (∀ a x, ((![v471] : Fin 1 → IVec S16 32) a x).toNat < S100000.size a)
instance k0_chk1106.dec : ∀ (v471 : IVec S16 32), Decidable (k0_chk1106 v471) := fun v471 => decidable_of_iff' _ (Iff.of_eq (k0_chk1106.eq_1 v471))
theorem k0_idx1106_inb : ∀ (v471 : IVec S16 32) (k0_hw1106 : k0_chk1106 v471), ∀ a x, ((![v471] : Fin 1 → IVec S16 32) a x).toNat < S100000.size a := fun v471 k0_hw1106 => k0_hw1106
def k0_off1280 (k0_t105 : Fin k0_t105_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1107 (v478 : IVec S16 32) : Prop :=
  (∀ a x, ((![v478] : Fin 1 → IVec S16 32) a x).toNat < S100000.size a)
instance k0_chk1107.dec : ∀ (v478 : IVec S16 32), Decidable (k0_chk1107 v478) := fun v478 => decidable_of_iff' _ (Iff.of_eq (k0_chk1107.eq_1 v478))
theorem k0_idx1107_inb : ∀ (v478 : IVec S16 32) (k0_hw1107 : k0_chk1107 v478), ∀ a x, ((![v478] : Fin 1 → IVec S16 32) a x).toNat < S100000.size a := fun v478 k0_hw1107 => k0_hw1107
def k0_off1281 (k0_t105 : Fin k0_t105_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1108 (v485 : IVec S16 32) : Prop :=
  (∀ a x, ((![v485] : Fin 1 → IVec S16 32) a x).toNat < S100000.size a)
instance k0_chk1108.dec : ∀ (v485 : IVec S16 32), Decidable (k0_chk1108 v485) := fun v485 => decidable_of_iff' _ (Iff.of_eq (k0_chk1108.eq_1 v485))
theorem k0_idx1108_inb : ∀ (v485 : IVec S16 32) (k0_hw1108 : k0_chk1108 v485), ∀ a x, ((![v485] : Fin 1 → IVec S16 32) a x).toNat < S100000.size a := fun v485 k0_hw1108 => k0_hw1108
def k0_off1282 (k0_t105 : Fin k0_t105_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1109 (v492 : IVec S16 32) : Prop :=
  (∀ a x, ((![v492] : Fin 1 → IVec S16 32) a x).toNat < S100000.size a)
instance k0_chk1109.dec : ∀ (v492 : IVec S16 32), Decidable (k0_chk1109 v492) := fun v492 => decidable_of_iff' _ (Iff.of_eq (k0_chk1109.eq_1 v492))
theorem k0_idx1109_inb : ∀ (v492 : IVec S16 32) (k0_hw1109 : k0_chk1109 v492), ∀ a x, ((![v492] : Fin 1 → IVec S16 32) a x).toNat < S100000.size a := fun v492 k0_hw1109 => k0_hw1109
def k0_off1283 (k0_t105 : Fin k0_t105_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1110 (v499 : IVec S16 32) : Prop :=
  (∀ a x, ((![v499] : Fin 1 → IVec S16 32) a x).toNat < S100000.size a)
instance k0_chk1110.dec : ∀ (v499 : IVec S16 32), Decidable (k0_chk1110 v499) := fun v499 => decidable_of_iff' _ (Iff.of_eq (k0_chk1110.eq_1 v499))
theorem k0_idx1110_inb : ∀ (v499 : IVec S16 32) (k0_hw1110 : k0_chk1110 v499), ∀ a x, ((![v499] : Fin 1 → IVec S16 32) a x).toNat < S100000.size a := fun v499 k0_hw1110 => k0_hw1110
def k0_off1284 (k0_t105 : Fin k0_t105_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1111 (v506 : IVec S16 32) : Prop :=
  (∀ a x, ((![v506] : Fin 1 → IVec S16 32) a x).toNat < S100000.size a)
instance k0_chk1111.dec : ∀ (v506 : IVec S16 32), Decidable (k0_chk1111 v506) := fun v506 => decidable_of_iff' _ (Iff.of_eq (k0_chk1111.eq_1 v506))
theorem k0_idx1111_inb : ∀ (v506 : IVec S16 32) (k0_hw1111 : k0_chk1111 v506), ∀ a x, ((![v506] : Fin 1 → IVec S16 32) a x).toNat < S100000.size a := fun v506 k0_hw1111 => k0_hw1111
def k0_off1285 (k0_t105 : Fin k0_t105_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1112 (v513 : IVec S16 32) : Prop :=
  (∀ a x, ((![v513] : Fin 1 → IVec S16 32) a x).toNat < S100000.size a)
instance k0_chk1112.dec : ∀ (v513 : IVec S16 32), Decidable (k0_chk1112 v513) := fun v513 => decidable_of_iff' _ (Iff.of_eq (k0_chk1112.eq_1 v513))
theorem k0_idx1112_inb : ∀ (v513 : IVec S16 32) (k0_hw1112 : k0_chk1112 v513), ∀ a x, ((![v513] : Fin 1 → IVec S16 32) a x).toNat < S100000.size a := fun v513 k0_hw1112 => k0_hw1112
def k0_off1286 (k0_t105 : Fin k0_t105_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1113 (v520 : IVec S16 32) : Prop :=
  (∀ a x, ((![v520] : Fin 1 → IVec S16 32) a x).toNat < S100000.size a)
instance k0_chk1113.dec : ∀ (v520 : IVec S16 32), Decidable (k0_chk1113 v520) := fun v520 => decidable_of_iff' _ (Iff.of_eq (k0_chk1113.eq_1 v520))
theorem k0_idx1113_inb : ∀ (v520 : IVec S16 32) (k0_hw1113 : k0_chk1113 v520), ∀ a x, ((![v520] : Fin 1 → IVec S16 32) a x).toNat < S100000.size a := fun v520 k0_hw1113 => k0_hw1113
def k0_off1287 (k0_t105 : Fin k0_t105_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1114 (v527 : IVec S16 32) : Prop :=
  (∀ a x, ((![v527] : Fin 1 → IVec S16 32) a x).toNat < S100000.size a)
instance k0_chk1114.dec : ∀ (v527 : IVec S16 32), Decidable (k0_chk1114 v527) := fun v527 => decidable_of_iff' _ (Iff.of_eq (k0_chk1114.eq_1 v527))
theorem k0_idx1114_inb : ∀ (v527 : IVec S16 32) (k0_hw1114 : k0_chk1114 v527), ∀ a x, ((![v527] : Fin 1 → IVec S16 32) a x).toNat < S100000.size a := fun v527 k0_hw1114 => k0_hw1114
def k0_off1288 (k0_t105 : Fin k0_t105_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1115 (v534 : IVec S16 32) : Prop :=
  (∀ a x, ((![v534] : Fin 1 → IVec S16 32) a x).toNat < S100000.size a)
instance k0_chk1115.dec : ∀ (v534 : IVec S16 32), Decidable (k0_chk1115 v534) := fun v534 => decidable_of_iff' _ (Iff.of_eq (k0_chk1115.eq_1 v534))
theorem k0_idx1115_inb : ∀ (v534 : IVec S16 32) (k0_hw1115 : k0_chk1115 v534), ∀ a x, ((![v534] : Fin 1 → IVec S16 32) a x).toNat < S100000.size a := fun v534 k0_hw1115 => k0_hw1115
def k0_off1289 (k0_t105 : Fin k0_t105_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1116 (v541 : IVec S16 32) : Prop :=
  (∀ a x, ((![v541] : Fin 1 → IVec S16 32) a x).toNat < S100000.size a)
instance k0_chk1116.dec : ∀ (v541 : IVec S16 32), Decidable (k0_chk1116 v541) := fun v541 => decidable_of_iff' _ (Iff.of_eq (k0_chk1116.eq_1 v541))
theorem k0_idx1116_inb : ∀ (v541 : IVec S16 32) (k0_hw1116 : k0_chk1116 v541), ∀ a x, ((![v541] : Fin 1 → IVec S16 32) a x).toNat < S100000.size a := fun v541 k0_hw1116 => k0_hw1116
def k0_off1290 (k0_t105 : Fin k0_t105_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1117 (v548 : IVec S16 32) : Prop :=
  (∀ a x, ((![v548] : Fin 1 → IVec S16 32) a x).toNat < S100000.size a)
instance k0_chk1117.dec : ∀ (v548 : IVec S16 32), Decidable (k0_chk1117 v548) := fun v548 => decidable_of_iff' _ (Iff.of_eq (k0_chk1117.eq_1 v548))
theorem k0_idx1117_inb : ∀ (v548 : IVec S16 32) (k0_hw1117 : k0_chk1117 v548), ∀ a x, ((![v548] : Fin 1 → IVec S16 32) a x).toNat < S100000.size a := fun v548 k0_hw1117 => k0_hw1117
def k0_off1291 (k0_t105 : Fin k0_t105_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1118 (v555 : IVec S16 32) : Prop :=
  (∀ a x, ((![v555] : Fin 1 → IVec S16 32) a x).toNat < S100000.size a)
instance k0_chk1118.dec : ∀ (v555 : IVec S16 32), Decidable (k0_chk1118 v555) := fun v555 => decidable_of_iff' _ (Iff.of_eq (k0_chk1118.eq_1 v555))
theorem k0_idx1118_inb : ∀ (v555 : IVec S16 32) (k0_hw1118 : k0_chk1118 v555), ∀ a x, ((![v555] : Fin 1 → IVec S16 32) a x).toNat < S100000.size a := fun v555 k0_hw1118 => k0_hw1118
def k0_off1292 (k0_t105 : Fin k0_t105_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1119 (v562 : IVec S16 32) : Prop :=
  (∀ a x, ((![v562] : Fin 1 → IVec S16 32) a x).toNat < S100000.size a)
instance k0_chk1119.dec : ∀ (v562 : IVec S16 32), Decidable (k0_chk1119 v562) := fun v562 => decidable_of_iff' _ (Iff.of_eq (k0_chk1119.eq_1 v562))
theorem k0_idx1119_inb : ∀ (v562 : IVec S16 32) (k0_hw1119 : k0_chk1119 v562), ∀ a x, ((![v562] : Fin 1 → IVec S16 32) a x).toNat < S100000.size a := fun v562 k0_hw1119 => k0_hw1119
def k0_off1293 (k0_t105 : Fin k0_t105_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1120 (v569 : IVec S16 32) : Prop :=
  (∀ a x, ((![v569] : Fin 1 → IVec S16 32) a x).toNat < S100000.size a)
instance k0_chk1120.dec : ∀ (v569 : IVec S16 32), Decidable (k0_chk1120 v569) := fun v569 => decidable_of_iff' _ (Iff.of_eq (k0_chk1120.eq_1 v569))
theorem k0_idx1120_inb : ∀ (v569 : IVec S16 32) (k0_hw1120 : k0_chk1120 v569), ∀ a x, ((![v569] : Fin 1 → IVec S16 32) a x).toNat < S100000.size a := fun v569 k0_hw1120 => k0_hw1120
def k0_off1294 (k0_t105 : Fin k0_t105_loop.trips) : Fin 1 → Nat :=
  let c0_i32_281 : BitVec 32 := 0#32
  let c1_i32_283 : BitVec 32 := 1#32
  let arg36 : BitVec 32 := Scf.iv c0_i32_281 c1_i32_283 k0_t105
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1295 (i : grid0.Coords) (k0_t103 : Fin (k0_t103_loop i).trips) : Fin 2 → Nat :=
  let c612_i32_285 : BitVec 32 := 612#32
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c1_i32_192 : BitVec 32 := 1#32
  let arg34 : BitVec 32 := Scf.iv v313 c1_i32_192 k0_t103
  let v460 : BitVec 32 := Scalar.addi c612_i32_285 arg34
  let c8192_i32_r140 : BitVec 32 := 8192#32
  ![v460.toNat, 8192]
@[reducible] def k0_t106_loop (i : grid0.Coords) : Scf.Loop 32 :=
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c36_i32_188 : BitVec 32 := 36#32
  let c0_i32_187 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c612_i32_186 : BitVec 32 := 612#32
  let v314 : BitVec 32 := Scalar.subi v38 c612_i32_186
  let v315 : BitVec 32 := Scalar.maxsi c0_i32_187 v314
  let v316 : BitVec 32 := Scalar.minsi c36_i32_188 v315
  let v320 : BitVec 32 := Scalar.subi v316 v313
  let c1_i32_191 : BitVec 32 := 1#32
  let v322 : BitVec 32 := Scalar.divsi v320 c1_i32_191
  let v323 : BitVec 32 := Scalar.muli v322 c1_i32_191
  let v324 : BitVec 32 := Scalar.addi v313 v323
  let v321 : BitVec 32 := Scalar.addi v313 v320
  let c1_i32_193 : BitVec 32 := 1#32
  ⟨v324, v321, c1_i32_193⟩
def k0_off1296 (i : grid0.Coords) (k0_t106 : Fin (k0_t106_loop i).trips) : Fin 2 → Nat :=
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c36_i32_188 : BitVec 32 := 36#32
  let c0_i32_187 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c612_i32_186 : BitVec 32 := 612#32
  let v314 : BitVec 32 := Scalar.subi v38 c612_i32_186
  let v315 : BitVec 32 := Scalar.maxsi c0_i32_187 v314
  let v316 : BitVec 32 := Scalar.minsi c36_i32_188 v315
  let v320 : BitVec 32 := Scalar.subi v316 v313
  let c1_i32_191 : BitVec 32 := 1#32
  let v322 : BitVec 32 := Scalar.divsi v320 c1_i32_191
  let v323 : BitVec 32 := Scalar.muli v322 c1_i32_191
  let v324 : BitVec 32 := Scalar.addi v313 v323
  let c1_i32_193 : BitVec 32 := 1#32
  let arg34 : BitVec 32 := Scf.iv v324 c1_i32_193 k0_t106
  let c0_i32_287_r141 : BitVec 32 := 0#32
  ![arg34.toNat, 0]
@[reducible] def k0_t107_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1297 (k0_t107 : Fin k0_t107_loop.trips) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1121 (v464 : IVec S16 32) : Prop :=
  (∀ a x, ((![v464] : Fin 1 → IVec S16 32) a x).toNat < S100000.size a)
instance k0_chk1121.dec : ∀ (v464 : IVec S16 32), Decidable (k0_chk1121 v464) := fun v464 => decidable_of_iff' _ (Iff.of_eq (k0_chk1121.eq_1 v464))
theorem k0_idx1121_inb : ∀ (v464 : IVec S16 32) (k0_hw1121 : k0_chk1121 v464), ∀ a x, ((![v464] : Fin 1 → IVec S16 32) a x).toNat < S100000.size a := fun v464 k0_hw1121 => k0_hw1121
def k0_off1298 (k0_t107 : Fin k0_t107_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1122 (v471 : IVec S16 32) : Prop :=
  (∀ a x, ((![v471] : Fin 1 → IVec S16 32) a x).toNat < S100000.size a)
instance k0_chk1122.dec : ∀ (v471 : IVec S16 32), Decidable (k0_chk1122 v471) := fun v471 => decidable_of_iff' _ (Iff.of_eq (k0_chk1122.eq_1 v471))
theorem k0_idx1122_inb : ∀ (v471 : IVec S16 32) (k0_hw1122 : k0_chk1122 v471), ∀ a x, ((![v471] : Fin 1 → IVec S16 32) a x).toNat < S100000.size a := fun v471 k0_hw1122 => k0_hw1122
def k0_off1299 (k0_t107 : Fin k0_t107_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1123 (v478 : IVec S16 32) : Prop :=
  (∀ a x, ((![v478] : Fin 1 → IVec S16 32) a x).toNat < S100000.size a)
instance k0_chk1123.dec : ∀ (v478 : IVec S16 32), Decidable (k0_chk1123 v478) := fun v478 => decidable_of_iff' _ (Iff.of_eq (k0_chk1123.eq_1 v478))
theorem k0_idx1123_inb : ∀ (v478 : IVec S16 32) (k0_hw1123 : k0_chk1123 v478), ∀ a x, ((![v478] : Fin 1 → IVec S16 32) a x).toNat < S100000.size a := fun v478 k0_hw1123 => k0_hw1123
def k0_off1300 (k0_t107 : Fin k0_t107_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1124 (v485 : IVec S16 32) : Prop :=
  (∀ a x, ((![v485] : Fin 1 → IVec S16 32) a x).toNat < S100000.size a)
instance k0_chk1124.dec : ∀ (v485 : IVec S16 32), Decidable (k0_chk1124 v485) := fun v485 => decidable_of_iff' _ (Iff.of_eq (k0_chk1124.eq_1 v485))
theorem k0_idx1124_inb : ∀ (v485 : IVec S16 32) (k0_hw1124 : k0_chk1124 v485), ∀ a x, ((![v485] : Fin 1 → IVec S16 32) a x).toNat < S100000.size a := fun v485 k0_hw1124 => k0_hw1124
def k0_off1301 (k0_t107 : Fin k0_t107_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1125 (v492 : IVec S16 32) : Prop :=
  (∀ a x, ((![v492] : Fin 1 → IVec S16 32) a x).toNat < S100000.size a)
instance k0_chk1125.dec : ∀ (v492 : IVec S16 32), Decidable (k0_chk1125 v492) := fun v492 => decidable_of_iff' _ (Iff.of_eq (k0_chk1125.eq_1 v492))
theorem k0_idx1125_inb : ∀ (v492 : IVec S16 32) (k0_hw1125 : k0_chk1125 v492), ∀ a x, ((![v492] : Fin 1 → IVec S16 32) a x).toNat < S100000.size a := fun v492 k0_hw1125 => k0_hw1125
def k0_off1302 (k0_t107 : Fin k0_t107_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1126 (v499 : IVec S16 32) : Prop :=
  (∀ a x, ((![v499] : Fin 1 → IVec S16 32) a x).toNat < S100000.size a)
instance k0_chk1126.dec : ∀ (v499 : IVec S16 32), Decidable (k0_chk1126 v499) := fun v499 => decidable_of_iff' _ (Iff.of_eq (k0_chk1126.eq_1 v499))
theorem k0_idx1126_inb : ∀ (v499 : IVec S16 32) (k0_hw1126 : k0_chk1126 v499), ∀ a x, ((![v499] : Fin 1 → IVec S16 32) a x).toNat < S100000.size a := fun v499 k0_hw1126 => k0_hw1126
def k0_off1303 (k0_t107 : Fin k0_t107_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1127 (v506 : IVec S16 32) : Prop :=
  (∀ a x, ((![v506] : Fin 1 → IVec S16 32) a x).toNat < S100000.size a)
instance k0_chk1127.dec : ∀ (v506 : IVec S16 32), Decidable (k0_chk1127 v506) := fun v506 => decidable_of_iff' _ (Iff.of_eq (k0_chk1127.eq_1 v506))
theorem k0_idx1127_inb : ∀ (v506 : IVec S16 32) (k0_hw1127 : k0_chk1127 v506), ∀ a x, ((![v506] : Fin 1 → IVec S16 32) a x).toNat < S100000.size a := fun v506 k0_hw1127 => k0_hw1127
def k0_off1304 (k0_t107 : Fin k0_t107_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1128 (v513 : IVec S16 32) : Prop :=
  (∀ a x, ((![v513] : Fin 1 → IVec S16 32) a x).toNat < S100000.size a)
instance k0_chk1128.dec : ∀ (v513 : IVec S16 32), Decidable (k0_chk1128 v513) := fun v513 => decidable_of_iff' _ (Iff.of_eq (k0_chk1128.eq_1 v513))
theorem k0_idx1128_inb : ∀ (v513 : IVec S16 32) (k0_hw1128 : k0_chk1128 v513), ∀ a x, ((![v513] : Fin 1 → IVec S16 32) a x).toNat < S100000.size a := fun v513 k0_hw1128 => k0_hw1128
def k0_off1305 (k0_t107 : Fin k0_t107_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1129 (v520 : IVec S16 32) : Prop :=
  (∀ a x, ((![v520] : Fin 1 → IVec S16 32) a x).toNat < S100000.size a)
instance k0_chk1129.dec : ∀ (v520 : IVec S16 32), Decidable (k0_chk1129 v520) := fun v520 => decidable_of_iff' _ (Iff.of_eq (k0_chk1129.eq_1 v520))
theorem k0_idx1129_inb : ∀ (v520 : IVec S16 32) (k0_hw1129 : k0_chk1129 v520), ∀ a x, ((![v520] : Fin 1 → IVec S16 32) a x).toNat < S100000.size a := fun v520 k0_hw1129 => k0_hw1129
def k0_off1306 (k0_t107 : Fin k0_t107_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1130 (v527 : IVec S16 32) : Prop :=
  (∀ a x, ((![v527] : Fin 1 → IVec S16 32) a x).toNat < S100000.size a)
instance k0_chk1130.dec : ∀ (v527 : IVec S16 32), Decidable (k0_chk1130 v527) := fun v527 => decidable_of_iff' _ (Iff.of_eq (k0_chk1130.eq_1 v527))
theorem k0_idx1130_inb : ∀ (v527 : IVec S16 32) (k0_hw1130 : k0_chk1130 v527), ∀ a x, ((![v527] : Fin 1 → IVec S16 32) a x).toNat < S100000.size a := fun v527 k0_hw1130 => k0_hw1130
def k0_off1307 (k0_t107 : Fin k0_t107_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1131 (v534 : IVec S16 32) : Prop :=
  (∀ a x, ((![v534] : Fin 1 → IVec S16 32) a x).toNat < S100000.size a)
instance k0_chk1131.dec : ∀ (v534 : IVec S16 32), Decidable (k0_chk1131 v534) := fun v534 => decidable_of_iff' _ (Iff.of_eq (k0_chk1131.eq_1 v534))
theorem k0_idx1131_inb : ∀ (v534 : IVec S16 32) (k0_hw1131 : k0_chk1131 v534), ∀ a x, ((![v534] : Fin 1 → IVec S16 32) a x).toNat < S100000.size a := fun v534 k0_hw1131 => k0_hw1131
def k0_off1308 (k0_t107 : Fin k0_t107_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1132 (v541 : IVec S16 32) : Prop :=
  (∀ a x, ((![v541] : Fin 1 → IVec S16 32) a x).toNat < S100000.size a)
instance k0_chk1132.dec : ∀ (v541 : IVec S16 32), Decidable (k0_chk1132 v541) := fun v541 => decidable_of_iff' _ (Iff.of_eq (k0_chk1132.eq_1 v541))
theorem k0_idx1132_inb : ∀ (v541 : IVec S16 32) (k0_hw1132 : k0_chk1132 v541), ∀ a x, ((![v541] : Fin 1 → IVec S16 32) a x).toNat < S100000.size a := fun v541 k0_hw1132 => k0_hw1132
def k0_off1309 (k0_t107 : Fin k0_t107_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1133 (v548 : IVec S16 32) : Prop :=
  (∀ a x, ((![v548] : Fin 1 → IVec S16 32) a x).toNat < S100000.size a)
instance k0_chk1133.dec : ∀ (v548 : IVec S16 32), Decidable (k0_chk1133 v548) := fun v548 => decidable_of_iff' _ (Iff.of_eq (k0_chk1133.eq_1 v548))
theorem k0_idx1133_inb : ∀ (v548 : IVec S16 32) (k0_hw1133 : k0_chk1133 v548), ∀ a x, ((![v548] : Fin 1 → IVec S16 32) a x).toNat < S100000.size a := fun v548 k0_hw1133 => k0_hw1133
def k0_off1310 (k0_t107 : Fin k0_t107_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1134 (v555 : IVec S16 32) : Prop :=
  (∀ a x, ((![v555] : Fin 1 → IVec S16 32) a x).toNat < S100000.size a)
instance k0_chk1134.dec : ∀ (v555 : IVec S16 32), Decidable (k0_chk1134 v555) := fun v555 => decidable_of_iff' _ (Iff.of_eq (k0_chk1134.eq_1 v555))
theorem k0_idx1134_inb : ∀ (v555 : IVec S16 32) (k0_hw1134 : k0_chk1134 v555), ∀ a x, ((![v555] : Fin 1 → IVec S16 32) a x).toNat < S100000.size a := fun v555 k0_hw1134 => k0_hw1134
def k0_off1311 (k0_t107 : Fin k0_t107_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1135 (v562 : IVec S16 32) : Prop :=
  (∀ a x, ((![v562] : Fin 1 → IVec S16 32) a x).toNat < S100000.size a)
instance k0_chk1135.dec : ∀ (v562 : IVec S16 32), Decidable (k0_chk1135 v562) := fun v562 => decidable_of_iff' _ (Iff.of_eq (k0_chk1135.eq_1 v562))
theorem k0_idx1135_inb : ∀ (v562 : IVec S16 32) (k0_hw1135 : k0_chk1135 v562), ∀ a x, ((![v562] : Fin 1 → IVec S16 32) a x).toNat < S100000.size a := fun v562 k0_hw1135 => k0_hw1135
def k0_off1312 (k0_t107 : Fin k0_t107_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1136 (v569 : IVec S16 32) : Prop :=
  (∀ a x, ((![v569] : Fin 1 → IVec S16 32) a x).toNat < S100000.size a)
instance k0_chk1136.dec : ∀ (v569 : IVec S16 32), Decidable (k0_chk1136 v569) := fun v569 => decidable_of_iff' _ (Iff.of_eq (k0_chk1136.eq_1 v569))
theorem k0_idx1136_inb : ∀ (v569 : IVec S16 32) (k0_hw1136 : k0_chk1136 v569), ∀ a x, ((![v569] : Fin 1 → IVec S16 32) a x).toNat < S100000.size a := fun v569 k0_hw1136 => k0_hw1136
def k0_off1313 (k0_t107 : Fin k0_t107_loop.trips) : Fin 1 → Nat :=
  let c0_i32_275 : BitVec 32 := 0#32
  let c1_i32_277 : BitVec 32 := 1#32
  let arg36 : BitVec 32 := Scf.iv c0_i32_275 c1_i32_277 k0_t107
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1314 (i : grid0.Coords) (k0_t106 : Fin (k0_t106_loop i).trips) : Fin 2 → Nat :=
  let c612_i32_279 : BitVec 32 := 612#32
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c36_i32_188 : BitVec 32 := 36#32
  let c0_i32_187 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c612_i32_186 : BitVec 32 := 612#32
  let v314 : BitVec 32 := Scalar.subi v38 c612_i32_186
  let v315 : BitVec 32 := Scalar.maxsi c0_i32_187 v314
  let v316 : BitVec 32 := Scalar.minsi c36_i32_188 v315
  let v320 : BitVec 32 := Scalar.subi v316 v313
  let c1_i32_191 : BitVec 32 := 1#32
  let v322 : BitVec 32 := Scalar.divsi v320 c1_i32_191
  let v323 : BitVec 32 := Scalar.muli v322 c1_i32_191
  let v324 : BitVec 32 := Scalar.addi v313 v323
  let c1_i32_193 : BitVec 32 := 1#32
  let arg34 : BitVec 32 := Scf.iv v324 c1_i32_193 k0_t106
  let v457 : BitVec 32 := Scalar.addi c612_i32_279 arg34
  let c0_i32_287_r142 : BitVec 32 := 0#32
  ![v457.toNat, 0]
@[reducible] def k0_t108_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1315 (k0_t108 : Fin k0_t108_loop.trips) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1137 (v464 : IVec S16 32) : Prop :=
  (∀ a x, ((![v464] : Fin 1 → IVec S16 32) a x).toNat < S100000.size a)
instance k0_chk1137.dec : ∀ (v464 : IVec S16 32), Decidable (k0_chk1137 v464) := fun v464 => decidable_of_iff' _ (Iff.of_eq (k0_chk1137.eq_1 v464))
theorem k0_idx1137_inb : ∀ (v464 : IVec S16 32) (k0_hw1137 : k0_chk1137 v464), ∀ a x, ((![v464] : Fin 1 → IVec S16 32) a x).toNat < S100000.size a := fun v464 k0_hw1137 => k0_hw1137
def k0_off1316 (k0_t108 : Fin k0_t108_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1138 (v471 : IVec S16 32) : Prop :=
  (∀ a x, ((![v471] : Fin 1 → IVec S16 32) a x).toNat < S100000.size a)
instance k0_chk1138.dec : ∀ (v471 : IVec S16 32), Decidable (k0_chk1138 v471) := fun v471 => decidable_of_iff' _ (Iff.of_eq (k0_chk1138.eq_1 v471))
theorem k0_idx1138_inb : ∀ (v471 : IVec S16 32) (k0_hw1138 : k0_chk1138 v471), ∀ a x, ((![v471] : Fin 1 → IVec S16 32) a x).toNat < S100000.size a := fun v471 k0_hw1138 => k0_hw1138
def k0_off1317 (k0_t108 : Fin k0_t108_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1139 (v478 : IVec S16 32) : Prop :=
  (∀ a x, ((![v478] : Fin 1 → IVec S16 32) a x).toNat < S100000.size a)
instance k0_chk1139.dec : ∀ (v478 : IVec S16 32), Decidable (k0_chk1139 v478) := fun v478 => decidable_of_iff' _ (Iff.of_eq (k0_chk1139.eq_1 v478))
theorem k0_idx1139_inb : ∀ (v478 : IVec S16 32) (k0_hw1139 : k0_chk1139 v478), ∀ a x, ((![v478] : Fin 1 → IVec S16 32) a x).toNat < S100000.size a := fun v478 k0_hw1139 => k0_hw1139
def k0_off1318 (k0_t108 : Fin k0_t108_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1140 (v485 : IVec S16 32) : Prop :=
  (∀ a x, ((![v485] : Fin 1 → IVec S16 32) a x).toNat < S100000.size a)
instance k0_chk1140.dec : ∀ (v485 : IVec S16 32), Decidable (k0_chk1140 v485) := fun v485 => decidable_of_iff' _ (Iff.of_eq (k0_chk1140.eq_1 v485))
theorem k0_idx1140_inb : ∀ (v485 : IVec S16 32) (k0_hw1140 : k0_chk1140 v485), ∀ a x, ((![v485] : Fin 1 → IVec S16 32) a x).toNat < S100000.size a := fun v485 k0_hw1140 => k0_hw1140
def k0_off1319 (k0_t108 : Fin k0_t108_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1141 (v492 : IVec S16 32) : Prop :=
  (∀ a x, ((![v492] : Fin 1 → IVec S16 32) a x).toNat < S100000.size a)
instance k0_chk1141.dec : ∀ (v492 : IVec S16 32), Decidable (k0_chk1141 v492) := fun v492 => decidable_of_iff' _ (Iff.of_eq (k0_chk1141.eq_1 v492))
theorem k0_idx1141_inb : ∀ (v492 : IVec S16 32) (k0_hw1141 : k0_chk1141 v492), ∀ a x, ((![v492] : Fin 1 → IVec S16 32) a x).toNat < S100000.size a := fun v492 k0_hw1141 => k0_hw1141
def k0_off1320 (k0_t108 : Fin k0_t108_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1142 (v499 : IVec S16 32) : Prop :=
  (∀ a x, ((![v499] : Fin 1 → IVec S16 32) a x).toNat < S100000.size a)
instance k0_chk1142.dec : ∀ (v499 : IVec S16 32), Decidable (k0_chk1142 v499) := fun v499 => decidable_of_iff' _ (Iff.of_eq (k0_chk1142.eq_1 v499))
theorem k0_idx1142_inb : ∀ (v499 : IVec S16 32) (k0_hw1142 : k0_chk1142 v499), ∀ a x, ((![v499] : Fin 1 → IVec S16 32) a x).toNat < S100000.size a := fun v499 k0_hw1142 => k0_hw1142
def k0_off1321 (k0_t108 : Fin k0_t108_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1143 (v506 : IVec S16 32) : Prop :=
  (∀ a x, ((![v506] : Fin 1 → IVec S16 32) a x).toNat < S100000.size a)
instance k0_chk1143.dec : ∀ (v506 : IVec S16 32), Decidable (k0_chk1143 v506) := fun v506 => decidable_of_iff' _ (Iff.of_eq (k0_chk1143.eq_1 v506))
theorem k0_idx1143_inb : ∀ (v506 : IVec S16 32) (k0_hw1143 : k0_chk1143 v506), ∀ a x, ((![v506] : Fin 1 → IVec S16 32) a x).toNat < S100000.size a := fun v506 k0_hw1143 => k0_hw1143
def k0_off1322 (k0_t108 : Fin k0_t108_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1144 (v513 : IVec S16 32) : Prop :=
  (∀ a x, ((![v513] : Fin 1 → IVec S16 32) a x).toNat < S100000.size a)
instance k0_chk1144.dec : ∀ (v513 : IVec S16 32), Decidable (k0_chk1144 v513) := fun v513 => decidable_of_iff' _ (Iff.of_eq (k0_chk1144.eq_1 v513))
theorem k0_idx1144_inb : ∀ (v513 : IVec S16 32) (k0_hw1144 : k0_chk1144 v513), ∀ a x, ((![v513] : Fin 1 → IVec S16 32) a x).toNat < S100000.size a := fun v513 k0_hw1144 => k0_hw1144
def k0_off1323 (k0_t108 : Fin k0_t108_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1145 (v520 : IVec S16 32) : Prop :=
  (∀ a x, ((![v520] : Fin 1 → IVec S16 32) a x).toNat < S100000.size a)
instance k0_chk1145.dec : ∀ (v520 : IVec S16 32), Decidable (k0_chk1145 v520) := fun v520 => decidable_of_iff' _ (Iff.of_eq (k0_chk1145.eq_1 v520))
theorem k0_idx1145_inb : ∀ (v520 : IVec S16 32) (k0_hw1145 : k0_chk1145 v520), ∀ a x, ((![v520] : Fin 1 → IVec S16 32) a x).toNat < S100000.size a := fun v520 k0_hw1145 => k0_hw1145
def k0_off1324 (k0_t108 : Fin k0_t108_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1146 (v527 : IVec S16 32) : Prop :=
  (∀ a x, ((![v527] : Fin 1 → IVec S16 32) a x).toNat < S100000.size a)
instance k0_chk1146.dec : ∀ (v527 : IVec S16 32), Decidable (k0_chk1146 v527) := fun v527 => decidable_of_iff' _ (Iff.of_eq (k0_chk1146.eq_1 v527))
theorem k0_idx1146_inb : ∀ (v527 : IVec S16 32) (k0_hw1146 : k0_chk1146 v527), ∀ a x, ((![v527] : Fin 1 → IVec S16 32) a x).toNat < S100000.size a := fun v527 k0_hw1146 => k0_hw1146
def k0_off1325 (k0_t108 : Fin k0_t108_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1147 (v534 : IVec S16 32) : Prop :=
  (∀ a x, ((![v534] : Fin 1 → IVec S16 32) a x).toNat < S100000.size a)
instance k0_chk1147.dec : ∀ (v534 : IVec S16 32), Decidable (k0_chk1147 v534) := fun v534 => decidable_of_iff' _ (Iff.of_eq (k0_chk1147.eq_1 v534))
theorem k0_idx1147_inb : ∀ (v534 : IVec S16 32) (k0_hw1147 : k0_chk1147 v534), ∀ a x, ((![v534] : Fin 1 → IVec S16 32) a x).toNat < S100000.size a := fun v534 k0_hw1147 => k0_hw1147
def k0_off1326 (k0_t108 : Fin k0_t108_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1148 (v541 : IVec S16 32) : Prop :=
  (∀ a x, ((![v541] : Fin 1 → IVec S16 32) a x).toNat < S100000.size a)
instance k0_chk1148.dec : ∀ (v541 : IVec S16 32), Decidable (k0_chk1148 v541) := fun v541 => decidable_of_iff' _ (Iff.of_eq (k0_chk1148.eq_1 v541))
theorem k0_idx1148_inb : ∀ (v541 : IVec S16 32) (k0_hw1148 : k0_chk1148 v541), ∀ a x, ((![v541] : Fin 1 → IVec S16 32) a x).toNat < S100000.size a := fun v541 k0_hw1148 => k0_hw1148
def k0_off1327 (k0_t108 : Fin k0_t108_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1149 (v548 : IVec S16 32) : Prop :=
  (∀ a x, ((![v548] : Fin 1 → IVec S16 32) a x).toNat < S100000.size a)
instance k0_chk1149.dec : ∀ (v548 : IVec S16 32), Decidable (k0_chk1149 v548) := fun v548 => decidable_of_iff' _ (Iff.of_eq (k0_chk1149.eq_1 v548))
theorem k0_idx1149_inb : ∀ (v548 : IVec S16 32) (k0_hw1149 : k0_chk1149 v548), ∀ a x, ((![v548] : Fin 1 → IVec S16 32) a x).toNat < S100000.size a := fun v548 k0_hw1149 => k0_hw1149
def k0_off1328 (k0_t108 : Fin k0_t108_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1150 (v555 : IVec S16 32) : Prop :=
  (∀ a x, ((![v555] : Fin 1 → IVec S16 32) a x).toNat < S100000.size a)
instance k0_chk1150.dec : ∀ (v555 : IVec S16 32), Decidable (k0_chk1150 v555) := fun v555 => decidable_of_iff' _ (Iff.of_eq (k0_chk1150.eq_1 v555))
theorem k0_idx1150_inb : ∀ (v555 : IVec S16 32) (k0_hw1150 : k0_chk1150 v555), ∀ a x, ((![v555] : Fin 1 → IVec S16 32) a x).toNat < S100000.size a := fun v555 k0_hw1150 => k0_hw1150
def k0_off1329 (k0_t108 : Fin k0_t108_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1151 (v562 : IVec S16 32) : Prop :=
  (∀ a x, ((![v562] : Fin 1 → IVec S16 32) a x).toNat < S100000.size a)
instance k0_chk1151.dec : ∀ (v562 : IVec S16 32), Decidable (k0_chk1151 v562) := fun v562 => decidable_of_iff' _ (Iff.of_eq (k0_chk1151.eq_1 v562))
theorem k0_idx1151_inb : ∀ (v562 : IVec S16 32) (k0_hw1151 : k0_chk1151 v562), ∀ a x, ((![v562] : Fin 1 → IVec S16 32) a x).toNat < S100000.size a := fun v562 k0_hw1151 => k0_hw1151
def k0_off1330 (k0_t108 : Fin k0_t108_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1152 (v569 : IVec S16 32) : Prop :=
  (∀ a x, ((![v569] : Fin 1 → IVec S16 32) a x).toNat < S100000.size a)
instance k0_chk1152.dec : ∀ (v569 : IVec S16 32), Decidable (k0_chk1152 v569) := fun v569 => decidable_of_iff' _ (Iff.of_eq (k0_chk1152.eq_1 v569))
theorem k0_idx1152_inb : ∀ (v569 : IVec S16 32) (k0_hw1152 : k0_chk1152 v569), ∀ a x, ((![v569] : Fin 1 → IVec S16 32) a x).toNat < S100000.size a := fun v569 k0_hw1152 => k0_hw1152
def k0_off1331 (k0_t108 : Fin k0_t108_loop.trips) : Fin 1 → Nat :=
  let c0_i32_281 : BitVec 32 := 0#32
  let c1_i32_283 : BitVec 32 := 1#32
  let arg36 : BitVec 32 := Scf.iv c0_i32_281 c1_i32_283 k0_t108
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1332 (i : grid0.Coords) (k0_t106 : Fin (k0_t106_loop i).trips) : Fin 2 → Nat :=
  let c612_i32_285 : BitVec 32 := 612#32
  let c36_i32_185 : BitVec 32 := 36#32
  let c0_i32_184 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c612_i32 : BitVec 32 := 612#32
  let v311 : BitVec 32 := Scalar.subi v19 c612_i32
  let v312 : BitVec 32 := Scalar.maxsi c0_i32_184 v311
  let v313 : BitVec 32 := Scalar.minsi c36_i32_185 v312
  let c36_i32_188 : BitVec 32 := 36#32
  let c0_i32_187 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c612_i32_186 : BitVec 32 := 612#32
  let v314 : BitVec 32 := Scalar.subi v38 c612_i32_186
  let v315 : BitVec 32 := Scalar.maxsi c0_i32_187 v314
  let v316 : BitVec 32 := Scalar.minsi c36_i32_188 v315
  let v320 : BitVec 32 := Scalar.subi v316 v313
  let c1_i32_191 : BitVec 32 := 1#32
  let v322 : BitVec 32 := Scalar.divsi v320 c1_i32_191
  let v323 : BitVec 32 := Scalar.muli v322 c1_i32_191
  let v324 : BitVec 32 := Scalar.addi v313 v323
  let c1_i32_193 : BitVec 32 := 1#32
  let arg34 : BitVec 32 := Scf.iv v324 c1_i32_193 k0_t106
  let v460 : BitVec 32 := Scalar.addi c612_i32_285 arg34
  let c8192_i32_r143 : BitVec 32 := 8192#32
  ![v460.toNat, 8192]
@[reducible] def k0_t109_loop (i : grid0.Coords) : Scf.Loop 32 :=
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c36_i32_198 : BitVec 32 := 36#32
  let c0_i32_197 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c648_i32_196 : BitVec 32 := 648#32
  let v330 : BitVec 32 := Scalar.subi v38 c648_i32_196
  let v331 : BitVec 32 := Scalar.maxsi c0_i32_197 v330
  let v332 : BitVec 32 := Scalar.minsi c36_i32_198 v331
  let v336 : BitVec 32 := Scalar.subi v332 v329
  let c1_i32_201 : BitVec 32 := 1#32
  let v338 : BitVec 32 := Scalar.divsi v336 c1_i32_201
  let v339 : BitVec 32 := Scalar.muli v338 c1_i32_201
  let v340 : BitVec 32 := Scalar.addi v329 v339
  let c1_i32_202 : BitVec 32 := 1#32
  ⟨v329, v340, c1_i32_202⟩
def k0_off1333 (i : grid0.Coords) (k0_t109 : Fin (k0_t109_loop i).trips) : Fin 2 → Nat :=
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c1_i32_202 : BitVec 32 := 1#32
  let arg34 : BitVec 32 := Scf.iv v329 c1_i32_202 k0_t109
  let c0_i32_287_r146 : BitVec 32 := 0#32
  ![arg34.toNat, 0]
@[reducible] def k0_t110_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1334 (k0_t110 : Fin k0_t110_loop.trips) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1153 (v464 : IVec S16 32) : Prop :=
  (∀ a x, ((![v464] : Fin 1 → IVec S16 32) a x).toNat < S100000.size a)
instance k0_chk1153.dec : ∀ (v464 : IVec S16 32), Decidable (k0_chk1153 v464) := fun v464 => decidable_of_iff' _ (Iff.of_eq (k0_chk1153.eq_1 v464))
theorem k0_idx1153_inb : ∀ (v464 : IVec S16 32) (k0_hw1153 : k0_chk1153 v464), ∀ a x, ((![v464] : Fin 1 → IVec S16 32) a x).toNat < S100000.size a := fun v464 k0_hw1153 => k0_hw1153
def k0_off1335 (k0_t110 : Fin k0_t110_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1154 (v471 : IVec S16 32) : Prop :=
  (∀ a x, ((![v471] : Fin 1 → IVec S16 32) a x).toNat < S100000.size a)
instance k0_chk1154.dec : ∀ (v471 : IVec S16 32), Decidable (k0_chk1154 v471) := fun v471 => decidable_of_iff' _ (Iff.of_eq (k0_chk1154.eq_1 v471))
theorem k0_idx1154_inb : ∀ (v471 : IVec S16 32) (k0_hw1154 : k0_chk1154 v471), ∀ a x, ((![v471] : Fin 1 → IVec S16 32) a x).toNat < S100000.size a := fun v471 k0_hw1154 => k0_hw1154
def k0_off1336 (k0_t110 : Fin k0_t110_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1155 (v478 : IVec S16 32) : Prop :=
  (∀ a x, ((![v478] : Fin 1 → IVec S16 32) a x).toNat < S100000.size a)
instance k0_chk1155.dec : ∀ (v478 : IVec S16 32), Decidable (k0_chk1155 v478) := fun v478 => decidable_of_iff' _ (Iff.of_eq (k0_chk1155.eq_1 v478))
theorem k0_idx1155_inb : ∀ (v478 : IVec S16 32) (k0_hw1155 : k0_chk1155 v478), ∀ a x, ((![v478] : Fin 1 → IVec S16 32) a x).toNat < S100000.size a := fun v478 k0_hw1155 => k0_hw1155
def k0_off1337 (k0_t110 : Fin k0_t110_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1156 (v485 : IVec S16 32) : Prop :=
  (∀ a x, ((![v485] : Fin 1 → IVec S16 32) a x).toNat < S100000.size a)
instance k0_chk1156.dec : ∀ (v485 : IVec S16 32), Decidable (k0_chk1156 v485) := fun v485 => decidable_of_iff' _ (Iff.of_eq (k0_chk1156.eq_1 v485))
theorem k0_idx1156_inb : ∀ (v485 : IVec S16 32) (k0_hw1156 : k0_chk1156 v485), ∀ a x, ((![v485] : Fin 1 → IVec S16 32) a x).toNat < S100000.size a := fun v485 k0_hw1156 => k0_hw1156
def k0_off1338 (k0_t110 : Fin k0_t110_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1157 (v492 : IVec S16 32) : Prop :=
  (∀ a x, ((![v492] : Fin 1 → IVec S16 32) a x).toNat < S100000.size a)
instance k0_chk1157.dec : ∀ (v492 : IVec S16 32), Decidable (k0_chk1157 v492) := fun v492 => decidable_of_iff' _ (Iff.of_eq (k0_chk1157.eq_1 v492))
theorem k0_idx1157_inb : ∀ (v492 : IVec S16 32) (k0_hw1157 : k0_chk1157 v492), ∀ a x, ((![v492] : Fin 1 → IVec S16 32) a x).toNat < S100000.size a := fun v492 k0_hw1157 => k0_hw1157
def k0_off1339 (k0_t110 : Fin k0_t110_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1158 (v499 : IVec S16 32) : Prop :=
  (∀ a x, ((![v499] : Fin 1 → IVec S16 32) a x).toNat < S100000.size a)
instance k0_chk1158.dec : ∀ (v499 : IVec S16 32), Decidable (k0_chk1158 v499) := fun v499 => decidable_of_iff' _ (Iff.of_eq (k0_chk1158.eq_1 v499))
theorem k0_idx1158_inb : ∀ (v499 : IVec S16 32) (k0_hw1158 : k0_chk1158 v499), ∀ a x, ((![v499] : Fin 1 → IVec S16 32) a x).toNat < S100000.size a := fun v499 k0_hw1158 => k0_hw1158
def k0_off1340 (k0_t110 : Fin k0_t110_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1159 (v506 : IVec S16 32) : Prop :=
  (∀ a x, ((![v506] : Fin 1 → IVec S16 32) a x).toNat < S100000.size a)
instance k0_chk1159.dec : ∀ (v506 : IVec S16 32), Decidable (k0_chk1159 v506) := fun v506 => decidable_of_iff' _ (Iff.of_eq (k0_chk1159.eq_1 v506))
theorem k0_idx1159_inb : ∀ (v506 : IVec S16 32) (k0_hw1159 : k0_chk1159 v506), ∀ a x, ((![v506] : Fin 1 → IVec S16 32) a x).toNat < S100000.size a := fun v506 k0_hw1159 => k0_hw1159
def k0_off1341 (k0_t110 : Fin k0_t110_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1160 (v513 : IVec S16 32) : Prop :=
  (∀ a x, ((![v513] : Fin 1 → IVec S16 32) a x).toNat < S100000.size a)
instance k0_chk1160.dec : ∀ (v513 : IVec S16 32), Decidable (k0_chk1160 v513) := fun v513 => decidable_of_iff' _ (Iff.of_eq (k0_chk1160.eq_1 v513))
theorem k0_idx1160_inb : ∀ (v513 : IVec S16 32) (k0_hw1160 : k0_chk1160 v513), ∀ a x, ((![v513] : Fin 1 → IVec S16 32) a x).toNat < S100000.size a := fun v513 k0_hw1160 => k0_hw1160
def k0_off1342 (k0_t110 : Fin k0_t110_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1161 (v520 : IVec S16 32) : Prop :=
  (∀ a x, ((![v520] : Fin 1 → IVec S16 32) a x).toNat < S100000.size a)
instance k0_chk1161.dec : ∀ (v520 : IVec S16 32), Decidable (k0_chk1161 v520) := fun v520 => decidable_of_iff' _ (Iff.of_eq (k0_chk1161.eq_1 v520))
theorem k0_idx1161_inb : ∀ (v520 : IVec S16 32) (k0_hw1161 : k0_chk1161 v520), ∀ a x, ((![v520] : Fin 1 → IVec S16 32) a x).toNat < S100000.size a := fun v520 k0_hw1161 => k0_hw1161
def k0_off1343 (k0_t110 : Fin k0_t110_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1162 (v527 : IVec S16 32) : Prop :=
  (∀ a x, ((![v527] : Fin 1 → IVec S16 32) a x).toNat < S100000.size a)
instance k0_chk1162.dec : ∀ (v527 : IVec S16 32), Decidable (k0_chk1162 v527) := fun v527 => decidable_of_iff' _ (Iff.of_eq (k0_chk1162.eq_1 v527))
theorem k0_idx1162_inb : ∀ (v527 : IVec S16 32) (k0_hw1162 : k0_chk1162 v527), ∀ a x, ((![v527] : Fin 1 → IVec S16 32) a x).toNat < S100000.size a := fun v527 k0_hw1162 => k0_hw1162
def k0_off1344 (k0_t110 : Fin k0_t110_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1163 (v534 : IVec S16 32) : Prop :=
  (∀ a x, ((![v534] : Fin 1 → IVec S16 32) a x).toNat < S100000.size a)
instance k0_chk1163.dec : ∀ (v534 : IVec S16 32), Decidable (k0_chk1163 v534) := fun v534 => decidable_of_iff' _ (Iff.of_eq (k0_chk1163.eq_1 v534))
theorem k0_idx1163_inb : ∀ (v534 : IVec S16 32) (k0_hw1163 : k0_chk1163 v534), ∀ a x, ((![v534] : Fin 1 → IVec S16 32) a x).toNat < S100000.size a := fun v534 k0_hw1163 => k0_hw1163
def k0_off1345 (k0_t110 : Fin k0_t110_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1164 (v541 : IVec S16 32) : Prop :=
  (∀ a x, ((![v541] : Fin 1 → IVec S16 32) a x).toNat < S100000.size a)
instance k0_chk1164.dec : ∀ (v541 : IVec S16 32), Decidable (k0_chk1164 v541) := fun v541 => decidable_of_iff' _ (Iff.of_eq (k0_chk1164.eq_1 v541))
theorem k0_idx1164_inb : ∀ (v541 : IVec S16 32) (k0_hw1164 : k0_chk1164 v541), ∀ a x, ((![v541] : Fin 1 → IVec S16 32) a x).toNat < S100000.size a := fun v541 k0_hw1164 => k0_hw1164
def k0_off1346 (k0_t110 : Fin k0_t110_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1165 (v548 : IVec S16 32) : Prop :=
  (∀ a x, ((![v548] : Fin 1 → IVec S16 32) a x).toNat < S100000.size a)
instance k0_chk1165.dec : ∀ (v548 : IVec S16 32), Decidable (k0_chk1165 v548) := fun v548 => decidable_of_iff' _ (Iff.of_eq (k0_chk1165.eq_1 v548))
theorem k0_idx1165_inb : ∀ (v548 : IVec S16 32) (k0_hw1165 : k0_chk1165 v548), ∀ a x, ((![v548] : Fin 1 → IVec S16 32) a x).toNat < S100000.size a := fun v548 k0_hw1165 => k0_hw1165
def k0_off1347 (k0_t110 : Fin k0_t110_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1166 (v555 : IVec S16 32) : Prop :=
  (∀ a x, ((![v555] : Fin 1 → IVec S16 32) a x).toNat < S100000.size a)
instance k0_chk1166.dec : ∀ (v555 : IVec S16 32), Decidable (k0_chk1166 v555) := fun v555 => decidable_of_iff' _ (Iff.of_eq (k0_chk1166.eq_1 v555))
theorem k0_idx1166_inb : ∀ (v555 : IVec S16 32) (k0_hw1166 : k0_chk1166 v555), ∀ a x, ((![v555] : Fin 1 → IVec S16 32) a x).toNat < S100000.size a := fun v555 k0_hw1166 => k0_hw1166
def k0_off1348 (k0_t110 : Fin k0_t110_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1167 (v562 : IVec S16 32) : Prop :=
  (∀ a x, ((![v562] : Fin 1 → IVec S16 32) a x).toNat < S100000.size a)
instance k0_chk1167.dec : ∀ (v562 : IVec S16 32), Decidable (k0_chk1167 v562) := fun v562 => decidable_of_iff' _ (Iff.of_eq (k0_chk1167.eq_1 v562))
theorem k0_idx1167_inb : ∀ (v562 : IVec S16 32) (k0_hw1167 : k0_chk1167 v562), ∀ a x, ((![v562] : Fin 1 → IVec S16 32) a x).toNat < S100000.size a := fun v562 k0_hw1167 => k0_hw1167
def k0_off1349 (k0_t110 : Fin k0_t110_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1168 (v569 : IVec S16 32) : Prop :=
  (∀ a x, ((![v569] : Fin 1 → IVec S16 32) a x).toNat < S100000.size a)
instance k0_chk1168.dec : ∀ (v569 : IVec S16 32), Decidable (k0_chk1168 v569) := fun v569 => decidable_of_iff' _ (Iff.of_eq (k0_chk1168.eq_1 v569))
theorem k0_idx1168_inb : ∀ (v569 : IVec S16 32) (k0_hw1168 : k0_chk1168 v569), ∀ a x, ((![v569] : Fin 1 → IVec S16 32) a x).toNat < S100000.size a := fun v569 k0_hw1168 => k0_hw1168
def k0_off1350 (k0_t110 : Fin k0_t110_loop.trips) : Fin 1 → Nat :=
  let c0_i32_275 : BitVec 32 := 0#32
  let c1_i32_277 : BitVec 32 := 1#32
  let arg36 : BitVec 32 := Scf.iv c0_i32_275 c1_i32_277 k0_t110
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1351 (i : grid0.Coords) (k0_t109 : Fin (k0_t109_loop i).trips) : Fin 2 → Nat :=
  let c648_i32_279 : BitVec 32 := 648#32
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c1_i32_202 : BitVec 32 := 1#32
  let arg34 : BitVec 32 := Scf.iv v329 c1_i32_202 k0_t109
  let v457 : BitVec 32 := Scalar.addi c648_i32_279 arg34
  let c0_i32_287_r147 : BitVec 32 := 0#32
  ![v457.toNat, 0]
@[reducible] def k0_t111_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1352 (k0_t111 : Fin k0_t111_loop.trips) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1169 (v464 : IVec S16 32) : Prop :=
  (∀ a x, ((![v464] : Fin 1 → IVec S16 32) a x).toNat < S100000.size a)
instance k0_chk1169.dec : ∀ (v464 : IVec S16 32), Decidable (k0_chk1169 v464) := fun v464 => decidable_of_iff' _ (Iff.of_eq (k0_chk1169.eq_1 v464))
theorem k0_idx1169_inb : ∀ (v464 : IVec S16 32) (k0_hw1169 : k0_chk1169 v464), ∀ a x, ((![v464] : Fin 1 → IVec S16 32) a x).toNat < S100000.size a := fun v464 k0_hw1169 => k0_hw1169
def k0_off1353 (k0_t111 : Fin k0_t111_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1170 (v471 : IVec S16 32) : Prop :=
  (∀ a x, ((![v471] : Fin 1 → IVec S16 32) a x).toNat < S100000.size a)
instance k0_chk1170.dec : ∀ (v471 : IVec S16 32), Decidable (k0_chk1170 v471) := fun v471 => decidable_of_iff' _ (Iff.of_eq (k0_chk1170.eq_1 v471))
theorem k0_idx1170_inb : ∀ (v471 : IVec S16 32) (k0_hw1170 : k0_chk1170 v471), ∀ a x, ((![v471] : Fin 1 → IVec S16 32) a x).toNat < S100000.size a := fun v471 k0_hw1170 => k0_hw1170
def k0_off1354 (k0_t111 : Fin k0_t111_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1171 (v478 : IVec S16 32) : Prop :=
  (∀ a x, ((![v478] : Fin 1 → IVec S16 32) a x).toNat < S100000.size a)
instance k0_chk1171.dec : ∀ (v478 : IVec S16 32), Decidable (k0_chk1171 v478) := fun v478 => decidable_of_iff' _ (Iff.of_eq (k0_chk1171.eq_1 v478))
theorem k0_idx1171_inb : ∀ (v478 : IVec S16 32) (k0_hw1171 : k0_chk1171 v478), ∀ a x, ((![v478] : Fin 1 → IVec S16 32) a x).toNat < S100000.size a := fun v478 k0_hw1171 => k0_hw1171
def k0_off1355 (k0_t111 : Fin k0_t111_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1172 (v485 : IVec S16 32) : Prop :=
  (∀ a x, ((![v485] : Fin 1 → IVec S16 32) a x).toNat < S100000.size a)
instance k0_chk1172.dec : ∀ (v485 : IVec S16 32), Decidable (k0_chk1172 v485) := fun v485 => decidable_of_iff' _ (Iff.of_eq (k0_chk1172.eq_1 v485))
theorem k0_idx1172_inb : ∀ (v485 : IVec S16 32) (k0_hw1172 : k0_chk1172 v485), ∀ a x, ((![v485] : Fin 1 → IVec S16 32) a x).toNat < S100000.size a := fun v485 k0_hw1172 => k0_hw1172
def k0_off1356 (k0_t111 : Fin k0_t111_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1173 (v492 : IVec S16 32) : Prop :=
  (∀ a x, ((![v492] : Fin 1 → IVec S16 32) a x).toNat < S100000.size a)
instance k0_chk1173.dec : ∀ (v492 : IVec S16 32), Decidable (k0_chk1173 v492) := fun v492 => decidable_of_iff' _ (Iff.of_eq (k0_chk1173.eq_1 v492))
theorem k0_idx1173_inb : ∀ (v492 : IVec S16 32) (k0_hw1173 : k0_chk1173 v492), ∀ a x, ((![v492] : Fin 1 → IVec S16 32) a x).toNat < S100000.size a := fun v492 k0_hw1173 => k0_hw1173
def k0_off1357 (k0_t111 : Fin k0_t111_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1174 (v499 : IVec S16 32) : Prop :=
  (∀ a x, ((![v499] : Fin 1 → IVec S16 32) a x).toNat < S100000.size a)
instance k0_chk1174.dec : ∀ (v499 : IVec S16 32), Decidable (k0_chk1174 v499) := fun v499 => decidable_of_iff' _ (Iff.of_eq (k0_chk1174.eq_1 v499))
theorem k0_idx1174_inb : ∀ (v499 : IVec S16 32) (k0_hw1174 : k0_chk1174 v499), ∀ a x, ((![v499] : Fin 1 → IVec S16 32) a x).toNat < S100000.size a := fun v499 k0_hw1174 => k0_hw1174
def k0_off1358 (k0_t111 : Fin k0_t111_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1175 (v506 : IVec S16 32) : Prop :=
  (∀ a x, ((![v506] : Fin 1 → IVec S16 32) a x).toNat < S100000.size a)
instance k0_chk1175.dec : ∀ (v506 : IVec S16 32), Decidable (k0_chk1175 v506) := fun v506 => decidable_of_iff' _ (Iff.of_eq (k0_chk1175.eq_1 v506))
theorem k0_idx1175_inb : ∀ (v506 : IVec S16 32) (k0_hw1175 : k0_chk1175 v506), ∀ a x, ((![v506] : Fin 1 → IVec S16 32) a x).toNat < S100000.size a := fun v506 k0_hw1175 => k0_hw1175
def k0_off1359 (k0_t111 : Fin k0_t111_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1176 (v513 : IVec S16 32) : Prop :=
  (∀ a x, ((![v513] : Fin 1 → IVec S16 32) a x).toNat < S100000.size a)
instance k0_chk1176.dec : ∀ (v513 : IVec S16 32), Decidable (k0_chk1176 v513) := fun v513 => decidable_of_iff' _ (Iff.of_eq (k0_chk1176.eq_1 v513))
theorem k0_idx1176_inb : ∀ (v513 : IVec S16 32) (k0_hw1176 : k0_chk1176 v513), ∀ a x, ((![v513] : Fin 1 → IVec S16 32) a x).toNat < S100000.size a := fun v513 k0_hw1176 => k0_hw1176
def k0_off1360 (k0_t111 : Fin k0_t111_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1177 (v520 : IVec S16 32) : Prop :=
  (∀ a x, ((![v520] : Fin 1 → IVec S16 32) a x).toNat < S100000.size a)
instance k0_chk1177.dec : ∀ (v520 : IVec S16 32), Decidable (k0_chk1177 v520) := fun v520 => decidable_of_iff' _ (Iff.of_eq (k0_chk1177.eq_1 v520))
theorem k0_idx1177_inb : ∀ (v520 : IVec S16 32) (k0_hw1177 : k0_chk1177 v520), ∀ a x, ((![v520] : Fin 1 → IVec S16 32) a x).toNat < S100000.size a := fun v520 k0_hw1177 => k0_hw1177
def k0_off1361 (k0_t111 : Fin k0_t111_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1178 (v527 : IVec S16 32) : Prop :=
  (∀ a x, ((![v527] : Fin 1 → IVec S16 32) a x).toNat < S100000.size a)
instance k0_chk1178.dec : ∀ (v527 : IVec S16 32), Decidable (k0_chk1178 v527) := fun v527 => decidable_of_iff' _ (Iff.of_eq (k0_chk1178.eq_1 v527))
theorem k0_idx1178_inb : ∀ (v527 : IVec S16 32) (k0_hw1178 : k0_chk1178 v527), ∀ a x, ((![v527] : Fin 1 → IVec S16 32) a x).toNat < S100000.size a := fun v527 k0_hw1178 => k0_hw1178
def k0_off1362 (k0_t111 : Fin k0_t111_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1179 (v534 : IVec S16 32) : Prop :=
  (∀ a x, ((![v534] : Fin 1 → IVec S16 32) a x).toNat < S100000.size a)
instance k0_chk1179.dec : ∀ (v534 : IVec S16 32), Decidable (k0_chk1179 v534) := fun v534 => decidable_of_iff' _ (Iff.of_eq (k0_chk1179.eq_1 v534))
theorem k0_idx1179_inb : ∀ (v534 : IVec S16 32) (k0_hw1179 : k0_chk1179 v534), ∀ a x, ((![v534] : Fin 1 → IVec S16 32) a x).toNat < S100000.size a := fun v534 k0_hw1179 => k0_hw1179
def k0_off1363 (k0_t111 : Fin k0_t111_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1180 (v541 : IVec S16 32) : Prop :=
  (∀ a x, ((![v541] : Fin 1 → IVec S16 32) a x).toNat < S100000.size a)
instance k0_chk1180.dec : ∀ (v541 : IVec S16 32), Decidable (k0_chk1180 v541) := fun v541 => decidable_of_iff' _ (Iff.of_eq (k0_chk1180.eq_1 v541))
theorem k0_idx1180_inb : ∀ (v541 : IVec S16 32) (k0_hw1180 : k0_chk1180 v541), ∀ a x, ((![v541] : Fin 1 → IVec S16 32) a x).toNat < S100000.size a := fun v541 k0_hw1180 => k0_hw1180
def k0_off1364 (k0_t111 : Fin k0_t111_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1181 (v548 : IVec S16 32) : Prop :=
  (∀ a x, ((![v548] : Fin 1 → IVec S16 32) a x).toNat < S100000.size a)
instance k0_chk1181.dec : ∀ (v548 : IVec S16 32), Decidable (k0_chk1181 v548) := fun v548 => decidable_of_iff' _ (Iff.of_eq (k0_chk1181.eq_1 v548))
theorem k0_idx1181_inb : ∀ (v548 : IVec S16 32) (k0_hw1181 : k0_chk1181 v548), ∀ a x, ((![v548] : Fin 1 → IVec S16 32) a x).toNat < S100000.size a := fun v548 k0_hw1181 => k0_hw1181
def k0_off1365 (k0_t111 : Fin k0_t111_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1182 (v555 : IVec S16 32) : Prop :=
  (∀ a x, ((![v555] : Fin 1 → IVec S16 32) a x).toNat < S100000.size a)
instance k0_chk1182.dec : ∀ (v555 : IVec S16 32), Decidable (k0_chk1182 v555) := fun v555 => decidable_of_iff' _ (Iff.of_eq (k0_chk1182.eq_1 v555))
theorem k0_idx1182_inb : ∀ (v555 : IVec S16 32) (k0_hw1182 : k0_chk1182 v555), ∀ a x, ((![v555] : Fin 1 → IVec S16 32) a x).toNat < S100000.size a := fun v555 k0_hw1182 => k0_hw1182
def k0_off1366 (k0_t111 : Fin k0_t111_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1183 (v562 : IVec S16 32) : Prop :=
  (∀ a x, ((![v562] : Fin 1 → IVec S16 32) a x).toNat < S100000.size a)
instance k0_chk1183.dec : ∀ (v562 : IVec S16 32), Decidable (k0_chk1183 v562) := fun v562 => decidable_of_iff' _ (Iff.of_eq (k0_chk1183.eq_1 v562))
theorem k0_idx1183_inb : ∀ (v562 : IVec S16 32) (k0_hw1183 : k0_chk1183 v562), ∀ a x, ((![v562] : Fin 1 → IVec S16 32) a x).toNat < S100000.size a := fun v562 k0_hw1183 => k0_hw1183
def k0_off1367 (k0_t111 : Fin k0_t111_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1184 (v569 : IVec S16 32) : Prop :=
  (∀ a x, ((![v569] : Fin 1 → IVec S16 32) a x).toNat < S100000.size a)
instance k0_chk1184.dec : ∀ (v569 : IVec S16 32), Decidable (k0_chk1184 v569) := fun v569 => decidable_of_iff' _ (Iff.of_eq (k0_chk1184.eq_1 v569))
theorem k0_idx1184_inb : ∀ (v569 : IVec S16 32) (k0_hw1184 : k0_chk1184 v569), ∀ a x, ((![v569] : Fin 1 → IVec S16 32) a x).toNat < S100000.size a := fun v569 k0_hw1184 => k0_hw1184
def k0_off1368 (k0_t111 : Fin k0_t111_loop.trips) : Fin 1 → Nat :=
  let c0_i32_281 : BitVec 32 := 0#32
  let c1_i32_283 : BitVec 32 := 1#32
  let arg36 : BitVec 32 := Scf.iv c0_i32_281 c1_i32_283 k0_t111
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1369 (i : grid0.Coords) (k0_t109 : Fin (k0_t109_loop i).trips) : Fin 2 → Nat :=
  let c648_i32_285 : BitVec 32 := 648#32
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c1_i32_202 : BitVec 32 := 1#32
  let arg34 : BitVec 32 := Scf.iv v329 c1_i32_202 k0_t109
  let v460 : BitVec 32 := Scalar.addi c648_i32_285 arg34
  let c8192_i32_r148 : BitVec 32 := 8192#32
  ![v460.toNat, 8192]
@[reducible] def k0_t112_loop (i : grid0.Coords) : Scf.Loop 32 :=
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c36_i32_198 : BitVec 32 := 36#32
  let c0_i32_197 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c648_i32_196 : BitVec 32 := 648#32
  let v330 : BitVec 32 := Scalar.subi v38 c648_i32_196
  let v331 : BitVec 32 := Scalar.maxsi c0_i32_197 v330
  let v332 : BitVec 32 := Scalar.minsi c36_i32_198 v331
  let v336 : BitVec 32 := Scalar.subi v332 v329
  let c1_i32_201 : BitVec 32 := 1#32
  let v338 : BitVec 32 := Scalar.divsi v336 c1_i32_201
  let v339 : BitVec 32 := Scalar.muli v338 c1_i32_201
  let v340 : BitVec 32 := Scalar.addi v329 v339
  let v337 : BitVec 32 := Scalar.addi v329 v336
  let c1_i32_203 : BitVec 32 := 1#32
  ⟨v340, v337, c1_i32_203⟩
def k0_off1370 (i : grid0.Coords) (k0_t112 : Fin (k0_t112_loop i).trips) : Fin 2 → Nat :=
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c36_i32_198 : BitVec 32 := 36#32
  let c0_i32_197 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c648_i32_196 : BitVec 32 := 648#32
  let v330 : BitVec 32 := Scalar.subi v38 c648_i32_196
  let v331 : BitVec 32 := Scalar.maxsi c0_i32_197 v330
  let v332 : BitVec 32 := Scalar.minsi c36_i32_198 v331
  let v336 : BitVec 32 := Scalar.subi v332 v329
  let c1_i32_201 : BitVec 32 := 1#32
  let v338 : BitVec 32 := Scalar.divsi v336 c1_i32_201
  let v339 : BitVec 32 := Scalar.muli v338 c1_i32_201
  let v340 : BitVec 32 := Scalar.addi v329 v339
  let c1_i32_203 : BitVec 32 := 1#32
  let arg34 : BitVec 32 := Scf.iv v340 c1_i32_203 k0_t112
  let c0_i32_287_r149 : BitVec 32 := 0#32
  ![arg34.toNat, 0]
@[reducible] def k0_t113_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1371 (k0_t113 : Fin k0_t113_loop.trips) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1185 (v464 : IVec S16 32) : Prop :=
  (∀ a x, ((![v464] : Fin 1 → IVec S16 32) a x).toNat < S100000.size a)
instance k0_chk1185.dec : ∀ (v464 : IVec S16 32), Decidable (k0_chk1185 v464) := fun v464 => decidable_of_iff' _ (Iff.of_eq (k0_chk1185.eq_1 v464))
theorem k0_idx1185_inb : ∀ (v464 : IVec S16 32) (k0_hw1185 : k0_chk1185 v464), ∀ a x, ((![v464] : Fin 1 → IVec S16 32) a x).toNat < S100000.size a := fun v464 k0_hw1185 => k0_hw1185
def k0_off1372 (k0_t113 : Fin k0_t113_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1186 (v471 : IVec S16 32) : Prop :=
  (∀ a x, ((![v471] : Fin 1 → IVec S16 32) a x).toNat < S100000.size a)
instance k0_chk1186.dec : ∀ (v471 : IVec S16 32), Decidable (k0_chk1186 v471) := fun v471 => decidable_of_iff' _ (Iff.of_eq (k0_chk1186.eq_1 v471))
theorem k0_idx1186_inb : ∀ (v471 : IVec S16 32) (k0_hw1186 : k0_chk1186 v471), ∀ a x, ((![v471] : Fin 1 → IVec S16 32) a x).toNat < S100000.size a := fun v471 k0_hw1186 => k0_hw1186
def k0_off1373 (k0_t113 : Fin k0_t113_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1187 (v478 : IVec S16 32) : Prop :=
  (∀ a x, ((![v478] : Fin 1 → IVec S16 32) a x).toNat < S100000.size a)
instance k0_chk1187.dec : ∀ (v478 : IVec S16 32), Decidable (k0_chk1187 v478) := fun v478 => decidable_of_iff' _ (Iff.of_eq (k0_chk1187.eq_1 v478))
theorem k0_idx1187_inb : ∀ (v478 : IVec S16 32) (k0_hw1187 : k0_chk1187 v478), ∀ a x, ((![v478] : Fin 1 → IVec S16 32) a x).toNat < S100000.size a := fun v478 k0_hw1187 => k0_hw1187
def k0_off1374 (k0_t113 : Fin k0_t113_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1188 (v485 : IVec S16 32) : Prop :=
  (∀ a x, ((![v485] : Fin 1 → IVec S16 32) a x).toNat < S100000.size a)
instance k0_chk1188.dec : ∀ (v485 : IVec S16 32), Decidable (k0_chk1188 v485) := fun v485 => decidable_of_iff' _ (Iff.of_eq (k0_chk1188.eq_1 v485))
theorem k0_idx1188_inb : ∀ (v485 : IVec S16 32) (k0_hw1188 : k0_chk1188 v485), ∀ a x, ((![v485] : Fin 1 → IVec S16 32) a x).toNat < S100000.size a := fun v485 k0_hw1188 => k0_hw1188
def k0_off1375 (k0_t113 : Fin k0_t113_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1189 (v492 : IVec S16 32) : Prop :=
  (∀ a x, ((![v492] : Fin 1 → IVec S16 32) a x).toNat < S100000.size a)
instance k0_chk1189.dec : ∀ (v492 : IVec S16 32), Decidable (k0_chk1189 v492) := fun v492 => decidable_of_iff' _ (Iff.of_eq (k0_chk1189.eq_1 v492))
theorem k0_idx1189_inb : ∀ (v492 : IVec S16 32) (k0_hw1189 : k0_chk1189 v492), ∀ a x, ((![v492] : Fin 1 → IVec S16 32) a x).toNat < S100000.size a := fun v492 k0_hw1189 => k0_hw1189
def k0_off1376 (k0_t113 : Fin k0_t113_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1190 (v499 : IVec S16 32) : Prop :=
  (∀ a x, ((![v499] : Fin 1 → IVec S16 32) a x).toNat < S100000.size a)
instance k0_chk1190.dec : ∀ (v499 : IVec S16 32), Decidable (k0_chk1190 v499) := fun v499 => decidable_of_iff' _ (Iff.of_eq (k0_chk1190.eq_1 v499))
theorem k0_idx1190_inb : ∀ (v499 : IVec S16 32) (k0_hw1190 : k0_chk1190 v499), ∀ a x, ((![v499] : Fin 1 → IVec S16 32) a x).toNat < S100000.size a := fun v499 k0_hw1190 => k0_hw1190
def k0_off1377 (k0_t113 : Fin k0_t113_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1191 (v506 : IVec S16 32) : Prop :=
  (∀ a x, ((![v506] : Fin 1 → IVec S16 32) a x).toNat < S100000.size a)
instance k0_chk1191.dec : ∀ (v506 : IVec S16 32), Decidable (k0_chk1191 v506) := fun v506 => decidable_of_iff' _ (Iff.of_eq (k0_chk1191.eq_1 v506))
theorem k0_idx1191_inb : ∀ (v506 : IVec S16 32) (k0_hw1191 : k0_chk1191 v506), ∀ a x, ((![v506] : Fin 1 → IVec S16 32) a x).toNat < S100000.size a := fun v506 k0_hw1191 => k0_hw1191
def k0_off1378 (k0_t113 : Fin k0_t113_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1192 (v513 : IVec S16 32) : Prop :=
  (∀ a x, ((![v513] : Fin 1 → IVec S16 32) a x).toNat < S100000.size a)
instance k0_chk1192.dec : ∀ (v513 : IVec S16 32), Decidable (k0_chk1192 v513) := fun v513 => decidable_of_iff' _ (Iff.of_eq (k0_chk1192.eq_1 v513))
theorem k0_idx1192_inb : ∀ (v513 : IVec S16 32) (k0_hw1192 : k0_chk1192 v513), ∀ a x, ((![v513] : Fin 1 → IVec S16 32) a x).toNat < S100000.size a := fun v513 k0_hw1192 => k0_hw1192
def k0_off1379 (k0_t113 : Fin k0_t113_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1193 (v520 : IVec S16 32) : Prop :=
  (∀ a x, ((![v520] : Fin 1 → IVec S16 32) a x).toNat < S100000.size a)
instance k0_chk1193.dec : ∀ (v520 : IVec S16 32), Decidable (k0_chk1193 v520) := fun v520 => decidable_of_iff' _ (Iff.of_eq (k0_chk1193.eq_1 v520))
theorem k0_idx1193_inb : ∀ (v520 : IVec S16 32) (k0_hw1193 : k0_chk1193 v520), ∀ a x, ((![v520] : Fin 1 → IVec S16 32) a x).toNat < S100000.size a := fun v520 k0_hw1193 => k0_hw1193
def k0_off1380 (k0_t113 : Fin k0_t113_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1194 (v527 : IVec S16 32) : Prop :=
  (∀ a x, ((![v527] : Fin 1 → IVec S16 32) a x).toNat < S100000.size a)
instance k0_chk1194.dec : ∀ (v527 : IVec S16 32), Decidable (k0_chk1194 v527) := fun v527 => decidable_of_iff' _ (Iff.of_eq (k0_chk1194.eq_1 v527))
theorem k0_idx1194_inb : ∀ (v527 : IVec S16 32) (k0_hw1194 : k0_chk1194 v527), ∀ a x, ((![v527] : Fin 1 → IVec S16 32) a x).toNat < S100000.size a := fun v527 k0_hw1194 => k0_hw1194
def k0_off1381 (k0_t113 : Fin k0_t113_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1195 (v534 : IVec S16 32) : Prop :=
  (∀ a x, ((![v534] : Fin 1 → IVec S16 32) a x).toNat < S100000.size a)
instance k0_chk1195.dec : ∀ (v534 : IVec S16 32), Decidable (k0_chk1195 v534) := fun v534 => decidable_of_iff' _ (Iff.of_eq (k0_chk1195.eq_1 v534))
theorem k0_idx1195_inb : ∀ (v534 : IVec S16 32) (k0_hw1195 : k0_chk1195 v534), ∀ a x, ((![v534] : Fin 1 → IVec S16 32) a x).toNat < S100000.size a := fun v534 k0_hw1195 => k0_hw1195
def k0_off1382 (k0_t113 : Fin k0_t113_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1196 (v541 : IVec S16 32) : Prop :=
  (∀ a x, ((![v541] : Fin 1 → IVec S16 32) a x).toNat < S100000.size a)
instance k0_chk1196.dec : ∀ (v541 : IVec S16 32), Decidable (k0_chk1196 v541) := fun v541 => decidable_of_iff' _ (Iff.of_eq (k0_chk1196.eq_1 v541))
theorem k0_idx1196_inb : ∀ (v541 : IVec S16 32) (k0_hw1196 : k0_chk1196 v541), ∀ a x, ((![v541] : Fin 1 → IVec S16 32) a x).toNat < S100000.size a := fun v541 k0_hw1196 => k0_hw1196
def k0_off1383 (k0_t113 : Fin k0_t113_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1197 (v548 : IVec S16 32) : Prop :=
  (∀ a x, ((![v548] : Fin 1 → IVec S16 32) a x).toNat < S100000.size a)
instance k0_chk1197.dec : ∀ (v548 : IVec S16 32), Decidable (k0_chk1197 v548) := fun v548 => decidable_of_iff' _ (Iff.of_eq (k0_chk1197.eq_1 v548))
theorem k0_idx1197_inb : ∀ (v548 : IVec S16 32) (k0_hw1197 : k0_chk1197 v548), ∀ a x, ((![v548] : Fin 1 → IVec S16 32) a x).toNat < S100000.size a := fun v548 k0_hw1197 => k0_hw1197
def k0_off1384 (k0_t113 : Fin k0_t113_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1198 (v555 : IVec S16 32) : Prop :=
  (∀ a x, ((![v555] : Fin 1 → IVec S16 32) a x).toNat < S100000.size a)
instance k0_chk1198.dec : ∀ (v555 : IVec S16 32), Decidable (k0_chk1198 v555) := fun v555 => decidable_of_iff' _ (Iff.of_eq (k0_chk1198.eq_1 v555))
theorem k0_idx1198_inb : ∀ (v555 : IVec S16 32) (k0_hw1198 : k0_chk1198 v555), ∀ a x, ((![v555] : Fin 1 → IVec S16 32) a x).toNat < S100000.size a := fun v555 k0_hw1198 => k0_hw1198
def k0_off1385 (k0_t113 : Fin k0_t113_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1199 (v562 : IVec S16 32) : Prop :=
  (∀ a x, ((![v562] : Fin 1 → IVec S16 32) a x).toNat < S100000.size a)
instance k0_chk1199.dec : ∀ (v562 : IVec S16 32), Decidable (k0_chk1199 v562) := fun v562 => decidable_of_iff' _ (Iff.of_eq (k0_chk1199.eq_1 v562))
theorem k0_idx1199_inb : ∀ (v562 : IVec S16 32) (k0_hw1199 : k0_chk1199 v562), ∀ a x, ((![v562] : Fin 1 → IVec S16 32) a x).toNat < S100000.size a := fun v562 k0_hw1199 => k0_hw1199
def k0_off1386 (k0_t113 : Fin k0_t113_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1200 (v569 : IVec S16 32) : Prop :=
  (∀ a x, ((![v569] : Fin 1 → IVec S16 32) a x).toNat < S100000.size a)
instance k0_chk1200.dec : ∀ (v569 : IVec S16 32), Decidable (k0_chk1200 v569) := fun v569 => decidable_of_iff' _ (Iff.of_eq (k0_chk1200.eq_1 v569))
theorem k0_idx1200_inb : ∀ (v569 : IVec S16 32) (k0_hw1200 : k0_chk1200 v569), ∀ a x, ((![v569] : Fin 1 → IVec S16 32) a x).toNat < S100000.size a := fun v569 k0_hw1200 => k0_hw1200
def k0_off1387 (k0_t113 : Fin k0_t113_loop.trips) : Fin 1 → Nat :=
  let c0_i32_275 : BitVec 32 := 0#32
  let c1_i32_277 : BitVec 32 := 1#32
  let arg36 : BitVec 32 := Scf.iv c0_i32_275 c1_i32_277 k0_t113
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1388 (i : grid0.Coords) (k0_t112 : Fin (k0_t112_loop i).trips) : Fin 2 → Nat :=
  let c648_i32_279 : BitVec 32 := 648#32
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c36_i32_198 : BitVec 32 := 36#32
  let c0_i32_197 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c648_i32_196 : BitVec 32 := 648#32
  let v330 : BitVec 32 := Scalar.subi v38 c648_i32_196
  let v331 : BitVec 32 := Scalar.maxsi c0_i32_197 v330
  let v332 : BitVec 32 := Scalar.minsi c36_i32_198 v331
  let v336 : BitVec 32 := Scalar.subi v332 v329
  let c1_i32_201 : BitVec 32 := 1#32
  let v338 : BitVec 32 := Scalar.divsi v336 c1_i32_201
  let v339 : BitVec 32 := Scalar.muli v338 c1_i32_201
  let v340 : BitVec 32 := Scalar.addi v329 v339
  let c1_i32_203 : BitVec 32 := 1#32
  let arg34 : BitVec 32 := Scf.iv v340 c1_i32_203 k0_t112
  let v457 : BitVec 32 := Scalar.addi c648_i32_279 arg34
  let c0_i32_287_r150 : BitVec 32 := 0#32
  ![v457.toNat, 0]
@[reducible] def k0_t114_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1389 (k0_t114 : Fin k0_t114_loop.trips) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1201 (v464 : IVec S16 32) : Prop :=
  (∀ a x, ((![v464] : Fin 1 → IVec S16 32) a x).toNat < S100000.size a)
instance k0_chk1201.dec : ∀ (v464 : IVec S16 32), Decidable (k0_chk1201 v464) := fun v464 => decidable_of_iff' _ (Iff.of_eq (k0_chk1201.eq_1 v464))
theorem k0_idx1201_inb : ∀ (v464 : IVec S16 32) (k0_hw1201 : k0_chk1201 v464), ∀ a x, ((![v464] : Fin 1 → IVec S16 32) a x).toNat < S100000.size a := fun v464 k0_hw1201 => k0_hw1201
def k0_off1390 (k0_t114 : Fin k0_t114_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1202 (v471 : IVec S16 32) : Prop :=
  (∀ a x, ((![v471] : Fin 1 → IVec S16 32) a x).toNat < S100000.size a)
instance k0_chk1202.dec : ∀ (v471 : IVec S16 32), Decidable (k0_chk1202 v471) := fun v471 => decidable_of_iff' _ (Iff.of_eq (k0_chk1202.eq_1 v471))
theorem k0_idx1202_inb : ∀ (v471 : IVec S16 32) (k0_hw1202 : k0_chk1202 v471), ∀ a x, ((![v471] : Fin 1 → IVec S16 32) a x).toNat < S100000.size a := fun v471 k0_hw1202 => k0_hw1202
def k0_off1391 (k0_t114 : Fin k0_t114_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1203 (v478 : IVec S16 32) : Prop :=
  (∀ a x, ((![v478] : Fin 1 → IVec S16 32) a x).toNat < S100000.size a)
instance k0_chk1203.dec : ∀ (v478 : IVec S16 32), Decidable (k0_chk1203 v478) := fun v478 => decidable_of_iff' _ (Iff.of_eq (k0_chk1203.eq_1 v478))
theorem k0_idx1203_inb : ∀ (v478 : IVec S16 32) (k0_hw1203 : k0_chk1203 v478), ∀ a x, ((![v478] : Fin 1 → IVec S16 32) a x).toNat < S100000.size a := fun v478 k0_hw1203 => k0_hw1203
def k0_off1392 (k0_t114 : Fin k0_t114_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1204 (v485 : IVec S16 32) : Prop :=
  (∀ a x, ((![v485] : Fin 1 → IVec S16 32) a x).toNat < S100000.size a)
instance k0_chk1204.dec : ∀ (v485 : IVec S16 32), Decidable (k0_chk1204 v485) := fun v485 => decidable_of_iff' _ (Iff.of_eq (k0_chk1204.eq_1 v485))
theorem k0_idx1204_inb : ∀ (v485 : IVec S16 32) (k0_hw1204 : k0_chk1204 v485), ∀ a x, ((![v485] : Fin 1 → IVec S16 32) a x).toNat < S100000.size a := fun v485 k0_hw1204 => k0_hw1204
def k0_off1393 (k0_t114 : Fin k0_t114_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1205 (v492 : IVec S16 32) : Prop :=
  (∀ a x, ((![v492] : Fin 1 → IVec S16 32) a x).toNat < S100000.size a)
instance k0_chk1205.dec : ∀ (v492 : IVec S16 32), Decidable (k0_chk1205 v492) := fun v492 => decidable_of_iff' _ (Iff.of_eq (k0_chk1205.eq_1 v492))
theorem k0_idx1205_inb : ∀ (v492 : IVec S16 32) (k0_hw1205 : k0_chk1205 v492), ∀ a x, ((![v492] : Fin 1 → IVec S16 32) a x).toNat < S100000.size a := fun v492 k0_hw1205 => k0_hw1205
def k0_off1394 (k0_t114 : Fin k0_t114_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1206 (v499 : IVec S16 32) : Prop :=
  (∀ a x, ((![v499] : Fin 1 → IVec S16 32) a x).toNat < S100000.size a)
instance k0_chk1206.dec : ∀ (v499 : IVec S16 32), Decidable (k0_chk1206 v499) := fun v499 => decidable_of_iff' _ (Iff.of_eq (k0_chk1206.eq_1 v499))
theorem k0_idx1206_inb : ∀ (v499 : IVec S16 32) (k0_hw1206 : k0_chk1206 v499), ∀ a x, ((![v499] : Fin 1 → IVec S16 32) a x).toNat < S100000.size a := fun v499 k0_hw1206 => k0_hw1206
def k0_off1395 (k0_t114 : Fin k0_t114_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1207 (v506 : IVec S16 32) : Prop :=
  (∀ a x, ((![v506] : Fin 1 → IVec S16 32) a x).toNat < S100000.size a)
instance k0_chk1207.dec : ∀ (v506 : IVec S16 32), Decidable (k0_chk1207 v506) := fun v506 => decidable_of_iff' _ (Iff.of_eq (k0_chk1207.eq_1 v506))
theorem k0_idx1207_inb : ∀ (v506 : IVec S16 32) (k0_hw1207 : k0_chk1207 v506), ∀ a x, ((![v506] : Fin 1 → IVec S16 32) a x).toNat < S100000.size a := fun v506 k0_hw1207 => k0_hw1207
def k0_off1396 (k0_t114 : Fin k0_t114_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1208 (v513 : IVec S16 32) : Prop :=
  (∀ a x, ((![v513] : Fin 1 → IVec S16 32) a x).toNat < S100000.size a)
instance k0_chk1208.dec : ∀ (v513 : IVec S16 32), Decidable (k0_chk1208 v513) := fun v513 => decidable_of_iff' _ (Iff.of_eq (k0_chk1208.eq_1 v513))
theorem k0_idx1208_inb : ∀ (v513 : IVec S16 32) (k0_hw1208 : k0_chk1208 v513), ∀ a x, ((![v513] : Fin 1 → IVec S16 32) a x).toNat < S100000.size a := fun v513 k0_hw1208 => k0_hw1208
def k0_off1397 (k0_t114 : Fin k0_t114_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1209 (v520 : IVec S16 32) : Prop :=
  (∀ a x, ((![v520] : Fin 1 → IVec S16 32) a x).toNat < S100000.size a)
instance k0_chk1209.dec : ∀ (v520 : IVec S16 32), Decidable (k0_chk1209 v520) := fun v520 => decidable_of_iff' _ (Iff.of_eq (k0_chk1209.eq_1 v520))
theorem k0_idx1209_inb : ∀ (v520 : IVec S16 32) (k0_hw1209 : k0_chk1209 v520), ∀ a x, ((![v520] : Fin 1 → IVec S16 32) a x).toNat < S100000.size a := fun v520 k0_hw1209 => k0_hw1209
def k0_off1398 (k0_t114 : Fin k0_t114_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1210 (v527 : IVec S16 32) : Prop :=
  (∀ a x, ((![v527] : Fin 1 → IVec S16 32) a x).toNat < S100000.size a)
instance k0_chk1210.dec : ∀ (v527 : IVec S16 32), Decidable (k0_chk1210 v527) := fun v527 => decidable_of_iff' _ (Iff.of_eq (k0_chk1210.eq_1 v527))
theorem k0_idx1210_inb : ∀ (v527 : IVec S16 32) (k0_hw1210 : k0_chk1210 v527), ∀ a x, ((![v527] : Fin 1 → IVec S16 32) a x).toNat < S100000.size a := fun v527 k0_hw1210 => k0_hw1210
def k0_off1399 (k0_t114 : Fin k0_t114_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1211 (v534 : IVec S16 32) : Prop :=
  (∀ a x, ((![v534] : Fin 1 → IVec S16 32) a x).toNat < S100000.size a)
instance k0_chk1211.dec : ∀ (v534 : IVec S16 32), Decidable (k0_chk1211 v534) := fun v534 => decidable_of_iff' _ (Iff.of_eq (k0_chk1211.eq_1 v534))
theorem k0_idx1211_inb : ∀ (v534 : IVec S16 32) (k0_hw1211 : k0_chk1211 v534), ∀ a x, ((![v534] : Fin 1 → IVec S16 32) a x).toNat < S100000.size a := fun v534 k0_hw1211 => k0_hw1211
def k0_off1400 (k0_t114 : Fin k0_t114_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1212 (v541 : IVec S16 32) : Prop :=
  (∀ a x, ((![v541] : Fin 1 → IVec S16 32) a x).toNat < S100000.size a)
instance k0_chk1212.dec : ∀ (v541 : IVec S16 32), Decidable (k0_chk1212 v541) := fun v541 => decidable_of_iff' _ (Iff.of_eq (k0_chk1212.eq_1 v541))
theorem k0_idx1212_inb : ∀ (v541 : IVec S16 32) (k0_hw1212 : k0_chk1212 v541), ∀ a x, ((![v541] : Fin 1 → IVec S16 32) a x).toNat < S100000.size a := fun v541 k0_hw1212 => k0_hw1212
def k0_off1401 (k0_t114 : Fin k0_t114_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1213 (v548 : IVec S16 32) : Prop :=
  (∀ a x, ((![v548] : Fin 1 → IVec S16 32) a x).toNat < S100000.size a)
instance k0_chk1213.dec : ∀ (v548 : IVec S16 32), Decidable (k0_chk1213 v548) := fun v548 => decidable_of_iff' _ (Iff.of_eq (k0_chk1213.eq_1 v548))
theorem k0_idx1213_inb : ∀ (v548 : IVec S16 32) (k0_hw1213 : k0_chk1213 v548), ∀ a x, ((![v548] : Fin 1 → IVec S16 32) a x).toNat < S100000.size a := fun v548 k0_hw1213 => k0_hw1213
def k0_off1402 (k0_t114 : Fin k0_t114_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1214 (v555 : IVec S16 32) : Prop :=
  (∀ a x, ((![v555] : Fin 1 → IVec S16 32) a x).toNat < S100000.size a)
instance k0_chk1214.dec : ∀ (v555 : IVec S16 32), Decidable (k0_chk1214 v555) := fun v555 => decidable_of_iff' _ (Iff.of_eq (k0_chk1214.eq_1 v555))
theorem k0_idx1214_inb : ∀ (v555 : IVec S16 32) (k0_hw1214 : k0_chk1214 v555), ∀ a x, ((![v555] : Fin 1 → IVec S16 32) a x).toNat < S100000.size a := fun v555 k0_hw1214 => k0_hw1214
def k0_off1403 (k0_t114 : Fin k0_t114_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1215 (v562 : IVec S16 32) : Prop :=
  (∀ a x, ((![v562] : Fin 1 → IVec S16 32) a x).toNat < S100000.size a)
instance k0_chk1215.dec : ∀ (v562 : IVec S16 32), Decidable (k0_chk1215 v562) := fun v562 => decidable_of_iff' _ (Iff.of_eq (k0_chk1215.eq_1 v562))
theorem k0_idx1215_inb : ∀ (v562 : IVec S16 32) (k0_hw1215 : k0_chk1215 v562), ∀ a x, ((![v562] : Fin 1 → IVec S16 32) a x).toNat < S100000.size a := fun v562 k0_hw1215 => k0_hw1215
def k0_off1404 (k0_t114 : Fin k0_t114_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1216 (v569 : IVec S16 32) : Prop :=
  (∀ a x, ((![v569] : Fin 1 → IVec S16 32) a x).toNat < S100000.size a)
instance k0_chk1216.dec : ∀ (v569 : IVec S16 32), Decidable (k0_chk1216 v569) := fun v569 => decidable_of_iff' _ (Iff.of_eq (k0_chk1216.eq_1 v569))
theorem k0_idx1216_inb : ∀ (v569 : IVec S16 32) (k0_hw1216 : k0_chk1216 v569), ∀ a x, ((![v569] : Fin 1 → IVec S16 32) a x).toNat < S100000.size a := fun v569 k0_hw1216 => k0_hw1216
def k0_off1405 (k0_t114 : Fin k0_t114_loop.trips) : Fin 1 → Nat :=
  let c0_i32_281 : BitVec 32 := 0#32
  let c1_i32_283 : BitVec 32 := 1#32
  let arg36 : BitVec 32 := Scf.iv c0_i32_281 c1_i32_283 k0_t114
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1406 (i : grid0.Coords) (k0_t112 : Fin (k0_t112_loop i).trips) : Fin 2 → Nat :=
  let c648_i32_285 : BitVec 32 := 648#32
  let c36_i32_195 : BitVec 32 := 36#32
  let c0_i32_194 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c648_i32 : BitVec 32 := 648#32
  let v327 : BitVec 32 := Scalar.subi v19 c648_i32
  let v328 : BitVec 32 := Scalar.maxsi c0_i32_194 v327
  let v329 : BitVec 32 := Scalar.minsi c36_i32_195 v328
  let c36_i32_198 : BitVec 32 := 36#32
  let c0_i32_197 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c648_i32_196 : BitVec 32 := 648#32
  let v330 : BitVec 32 := Scalar.subi v38 c648_i32_196
  let v331 : BitVec 32 := Scalar.maxsi c0_i32_197 v330
  let v332 : BitVec 32 := Scalar.minsi c36_i32_198 v331
  let v336 : BitVec 32 := Scalar.subi v332 v329
  let c1_i32_201 : BitVec 32 := 1#32
  let v338 : BitVec 32 := Scalar.divsi v336 c1_i32_201
  let v339 : BitVec 32 := Scalar.muli v338 c1_i32_201
  let v340 : BitVec 32 := Scalar.addi v329 v339
  let c1_i32_203 : BitVec 32 := 1#32
  let arg34 : BitVec 32 := Scf.iv v340 c1_i32_203 k0_t112
  let v460 : BitVec 32 := Scalar.addi c648_i32_285 arg34
  let c8192_i32_r151 : BitVec 32 := 8192#32
  ![v460.toNat, 8192]
@[reducible] def k0_t115_loop (i : grid0.Coords) : Scf.Loop 32 :=
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c36_i32_208 : BitVec 32 := 36#32
  let c0_i32_207 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c684_i32_206 : BitVec 32 := 684#32
  let v346 : BitVec 32 := Scalar.subi v38 c684_i32_206
  let v347 : BitVec 32 := Scalar.maxsi c0_i32_207 v346
  let v348 : BitVec 32 := Scalar.minsi c36_i32_208 v347
  let v352 : BitVec 32 := Scalar.subi v348 v345
  let c1_i32_211 : BitVec 32 := 1#32
  let v354 : BitVec 32 := Scalar.divsi v352 c1_i32_211
  let v355 : BitVec 32 := Scalar.muli v354 c1_i32_211
  let v356 : BitVec 32 := Scalar.addi v345 v355
  let c1_i32_212 : BitVec 32 := 1#32
  ⟨v345, v356, c1_i32_212⟩
def k0_off1407 (i : grid0.Coords) (k0_t115 : Fin (k0_t115_loop i).trips) : Fin 2 → Nat :=
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c1_i32_212 : BitVec 32 := 1#32
  let arg34 : BitVec 32 := Scf.iv v345 c1_i32_212 k0_t115
  let c0_i32_287_r154 : BitVec 32 := 0#32
  ![arg34.toNat, 0]
@[reducible] def k0_t116_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1408 (k0_t116 : Fin k0_t116_loop.trips) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1217 (v464 : IVec S16 32) : Prop :=
  (∀ a x, ((![v464] : Fin 1 → IVec S16 32) a x).toNat < S100000.size a)
instance k0_chk1217.dec : ∀ (v464 : IVec S16 32), Decidable (k0_chk1217 v464) := fun v464 => decidable_of_iff' _ (Iff.of_eq (k0_chk1217.eq_1 v464))
theorem k0_idx1217_inb : ∀ (v464 : IVec S16 32) (k0_hw1217 : k0_chk1217 v464), ∀ a x, ((![v464] : Fin 1 → IVec S16 32) a x).toNat < S100000.size a := fun v464 k0_hw1217 => k0_hw1217
def k0_off1409 (k0_t116 : Fin k0_t116_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1218 (v471 : IVec S16 32) : Prop :=
  (∀ a x, ((![v471] : Fin 1 → IVec S16 32) a x).toNat < S100000.size a)
instance k0_chk1218.dec : ∀ (v471 : IVec S16 32), Decidable (k0_chk1218 v471) := fun v471 => decidable_of_iff' _ (Iff.of_eq (k0_chk1218.eq_1 v471))
theorem k0_idx1218_inb : ∀ (v471 : IVec S16 32) (k0_hw1218 : k0_chk1218 v471), ∀ a x, ((![v471] : Fin 1 → IVec S16 32) a x).toNat < S100000.size a := fun v471 k0_hw1218 => k0_hw1218
def k0_off1410 (k0_t116 : Fin k0_t116_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1219 (v478 : IVec S16 32) : Prop :=
  (∀ a x, ((![v478] : Fin 1 → IVec S16 32) a x).toNat < S100000.size a)
instance k0_chk1219.dec : ∀ (v478 : IVec S16 32), Decidable (k0_chk1219 v478) := fun v478 => decidable_of_iff' _ (Iff.of_eq (k0_chk1219.eq_1 v478))
theorem k0_idx1219_inb : ∀ (v478 : IVec S16 32) (k0_hw1219 : k0_chk1219 v478), ∀ a x, ((![v478] : Fin 1 → IVec S16 32) a x).toNat < S100000.size a := fun v478 k0_hw1219 => k0_hw1219
def k0_off1411 (k0_t116 : Fin k0_t116_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1220 (v485 : IVec S16 32) : Prop :=
  (∀ a x, ((![v485] : Fin 1 → IVec S16 32) a x).toNat < S100000.size a)
instance k0_chk1220.dec : ∀ (v485 : IVec S16 32), Decidable (k0_chk1220 v485) := fun v485 => decidable_of_iff' _ (Iff.of_eq (k0_chk1220.eq_1 v485))
theorem k0_idx1220_inb : ∀ (v485 : IVec S16 32) (k0_hw1220 : k0_chk1220 v485), ∀ a x, ((![v485] : Fin 1 → IVec S16 32) a x).toNat < S100000.size a := fun v485 k0_hw1220 => k0_hw1220
def k0_off1412 (k0_t116 : Fin k0_t116_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1221 (v492 : IVec S16 32) : Prop :=
  (∀ a x, ((![v492] : Fin 1 → IVec S16 32) a x).toNat < S100000.size a)
instance k0_chk1221.dec : ∀ (v492 : IVec S16 32), Decidable (k0_chk1221 v492) := fun v492 => decidable_of_iff' _ (Iff.of_eq (k0_chk1221.eq_1 v492))
theorem k0_idx1221_inb : ∀ (v492 : IVec S16 32) (k0_hw1221 : k0_chk1221 v492), ∀ a x, ((![v492] : Fin 1 → IVec S16 32) a x).toNat < S100000.size a := fun v492 k0_hw1221 => k0_hw1221
def k0_off1413 (k0_t116 : Fin k0_t116_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1222 (v499 : IVec S16 32) : Prop :=
  (∀ a x, ((![v499] : Fin 1 → IVec S16 32) a x).toNat < S100000.size a)
instance k0_chk1222.dec : ∀ (v499 : IVec S16 32), Decidable (k0_chk1222 v499) := fun v499 => decidable_of_iff' _ (Iff.of_eq (k0_chk1222.eq_1 v499))
theorem k0_idx1222_inb : ∀ (v499 : IVec S16 32) (k0_hw1222 : k0_chk1222 v499), ∀ a x, ((![v499] : Fin 1 → IVec S16 32) a x).toNat < S100000.size a := fun v499 k0_hw1222 => k0_hw1222
def k0_off1414 (k0_t116 : Fin k0_t116_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1223 (v506 : IVec S16 32) : Prop :=
  (∀ a x, ((![v506] : Fin 1 → IVec S16 32) a x).toNat < S100000.size a)
instance k0_chk1223.dec : ∀ (v506 : IVec S16 32), Decidable (k0_chk1223 v506) := fun v506 => decidable_of_iff' _ (Iff.of_eq (k0_chk1223.eq_1 v506))
theorem k0_idx1223_inb : ∀ (v506 : IVec S16 32) (k0_hw1223 : k0_chk1223 v506), ∀ a x, ((![v506] : Fin 1 → IVec S16 32) a x).toNat < S100000.size a := fun v506 k0_hw1223 => k0_hw1223
def k0_off1415 (k0_t116 : Fin k0_t116_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1224 (v513 : IVec S16 32) : Prop :=
  (∀ a x, ((![v513] : Fin 1 → IVec S16 32) a x).toNat < S100000.size a)
instance k0_chk1224.dec : ∀ (v513 : IVec S16 32), Decidable (k0_chk1224 v513) := fun v513 => decidable_of_iff' _ (Iff.of_eq (k0_chk1224.eq_1 v513))
theorem k0_idx1224_inb : ∀ (v513 : IVec S16 32) (k0_hw1224 : k0_chk1224 v513), ∀ a x, ((![v513] : Fin 1 → IVec S16 32) a x).toNat < S100000.size a := fun v513 k0_hw1224 => k0_hw1224
def k0_off1416 (k0_t116 : Fin k0_t116_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1225 (v520 : IVec S16 32) : Prop :=
  (∀ a x, ((![v520] : Fin 1 → IVec S16 32) a x).toNat < S100000.size a)
instance k0_chk1225.dec : ∀ (v520 : IVec S16 32), Decidable (k0_chk1225 v520) := fun v520 => decidable_of_iff' _ (Iff.of_eq (k0_chk1225.eq_1 v520))
theorem k0_idx1225_inb : ∀ (v520 : IVec S16 32) (k0_hw1225 : k0_chk1225 v520), ∀ a x, ((![v520] : Fin 1 → IVec S16 32) a x).toNat < S100000.size a := fun v520 k0_hw1225 => k0_hw1225
def k0_off1417 (k0_t116 : Fin k0_t116_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1226 (v527 : IVec S16 32) : Prop :=
  (∀ a x, ((![v527] : Fin 1 → IVec S16 32) a x).toNat < S100000.size a)
instance k0_chk1226.dec : ∀ (v527 : IVec S16 32), Decidable (k0_chk1226 v527) := fun v527 => decidable_of_iff' _ (Iff.of_eq (k0_chk1226.eq_1 v527))
theorem k0_idx1226_inb : ∀ (v527 : IVec S16 32) (k0_hw1226 : k0_chk1226 v527), ∀ a x, ((![v527] : Fin 1 → IVec S16 32) a x).toNat < S100000.size a := fun v527 k0_hw1226 => k0_hw1226
def k0_off1418 (k0_t116 : Fin k0_t116_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1227 (v534 : IVec S16 32) : Prop :=
  (∀ a x, ((![v534] : Fin 1 → IVec S16 32) a x).toNat < S100000.size a)
instance k0_chk1227.dec : ∀ (v534 : IVec S16 32), Decidable (k0_chk1227 v534) := fun v534 => decidable_of_iff' _ (Iff.of_eq (k0_chk1227.eq_1 v534))
theorem k0_idx1227_inb : ∀ (v534 : IVec S16 32) (k0_hw1227 : k0_chk1227 v534), ∀ a x, ((![v534] : Fin 1 → IVec S16 32) a x).toNat < S100000.size a := fun v534 k0_hw1227 => k0_hw1227
def k0_off1419 (k0_t116 : Fin k0_t116_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1228 (v541 : IVec S16 32) : Prop :=
  (∀ a x, ((![v541] : Fin 1 → IVec S16 32) a x).toNat < S100000.size a)
instance k0_chk1228.dec : ∀ (v541 : IVec S16 32), Decidable (k0_chk1228 v541) := fun v541 => decidable_of_iff' _ (Iff.of_eq (k0_chk1228.eq_1 v541))
theorem k0_idx1228_inb : ∀ (v541 : IVec S16 32) (k0_hw1228 : k0_chk1228 v541), ∀ a x, ((![v541] : Fin 1 → IVec S16 32) a x).toNat < S100000.size a := fun v541 k0_hw1228 => k0_hw1228
def k0_off1420 (k0_t116 : Fin k0_t116_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1229 (v548 : IVec S16 32) : Prop :=
  (∀ a x, ((![v548] : Fin 1 → IVec S16 32) a x).toNat < S100000.size a)
instance k0_chk1229.dec : ∀ (v548 : IVec S16 32), Decidable (k0_chk1229 v548) := fun v548 => decidable_of_iff' _ (Iff.of_eq (k0_chk1229.eq_1 v548))
theorem k0_idx1229_inb : ∀ (v548 : IVec S16 32) (k0_hw1229 : k0_chk1229 v548), ∀ a x, ((![v548] : Fin 1 → IVec S16 32) a x).toNat < S100000.size a := fun v548 k0_hw1229 => k0_hw1229
def k0_off1421 (k0_t116 : Fin k0_t116_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1230 (v555 : IVec S16 32) : Prop :=
  (∀ a x, ((![v555] : Fin 1 → IVec S16 32) a x).toNat < S100000.size a)
instance k0_chk1230.dec : ∀ (v555 : IVec S16 32), Decidable (k0_chk1230 v555) := fun v555 => decidable_of_iff' _ (Iff.of_eq (k0_chk1230.eq_1 v555))
theorem k0_idx1230_inb : ∀ (v555 : IVec S16 32) (k0_hw1230 : k0_chk1230 v555), ∀ a x, ((![v555] : Fin 1 → IVec S16 32) a x).toNat < S100000.size a := fun v555 k0_hw1230 => k0_hw1230
def k0_off1422 (k0_t116 : Fin k0_t116_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1231 (v562 : IVec S16 32) : Prop :=
  (∀ a x, ((![v562] : Fin 1 → IVec S16 32) a x).toNat < S100000.size a)
instance k0_chk1231.dec : ∀ (v562 : IVec S16 32), Decidable (k0_chk1231 v562) := fun v562 => decidable_of_iff' _ (Iff.of_eq (k0_chk1231.eq_1 v562))
theorem k0_idx1231_inb : ∀ (v562 : IVec S16 32) (k0_hw1231 : k0_chk1231 v562), ∀ a x, ((![v562] : Fin 1 → IVec S16 32) a x).toNat < S100000.size a := fun v562 k0_hw1231 => k0_hw1231
def k0_off1423 (k0_t116 : Fin k0_t116_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1232 (v569 : IVec S16 32) : Prop :=
  (∀ a x, ((![v569] : Fin 1 → IVec S16 32) a x).toNat < S100000.size a)
instance k0_chk1232.dec : ∀ (v569 : IVec S16 32), Decidable (k0_chk1232 v569) := fun v569 => decidable_of_iff' _ (Iff.of_eq (k0_chk1232.eq_1 v569))
theorem k0_idx1232_inb : ∀ (v569 : IVec S16 32) (k0_hw1232 : k0_chk1232 v569), ∀ a x, ((![v569] : Fin 1 → IVec S16 32) a x).toNat < S100000.size a := fun v569 k0_hw1232 => k0_hw1232
def k0_off1424 (k0_t116 : Fin k0_t116_loop.trips) : Fin 1 → Nat :=
  let c0_i32_275 : BitVec 32 := 0#32
  let c1_i32_277 : BitVec 32 := 1#32
  let arg36 : BitVec 32 := Scf.iv c0_i32_275 c1_i32_277 k0_t116
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1425 (i : grid0.Coords) (k0_t115 : Fin (k0_t115_loop i).trips) : Fin 2 → Nat :=
  let c684_i32_279 : BitVec 32 := 684#32
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c1_i32_212 : BitVec 32 := 1#32
  let arg34 : BitVec 32 := Scf.iv v345 c1_i32_212 k0_t115
  let v457 : BitVec 32 := Scalar.addi c684_i32_279 arg34
  let c0_i32_287_r155 : BitVec 32 := 0#32
  ![v457.toNat, 0]
@[reducible] def k0_t117_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1426 (k0_t117 : Fin k0_t117_loop.trips) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1233 (v464 : IVec S16 32) : Prop :=
  (∀ a x, ((![v464] : Fin 1 → IVec S16 32) a x).toNat < S100000.size a)
instance k0_chk1233.dec : ∀ (v464 : IVec S16 32), Decidable (k0_chk1233 v464) := fun v464 => decidable_of_iff' _ (Iff.of_eq (k0_chk1233.eq_1 v464))
theorem k0_idx1233_inb : ∀ (v464 : IVec S16 32) (k0_hw1233 : k0_chk1233 v464), ∀ a x, ((![v464] : Fin 1 → IVec S16 32) a x).toNat < S100000.size a := fun v464 k0_hw1233 => k0_hw1233
def k0_off1427 (k0_t117 : Fin k0_t117_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1234 (v471 : IVec S16 32) : Prop :=
  (∀ a x, ((![v471] : Fin 1 → IVec S16 32) a x).toNat < S100000.size a)
instance k0_chk1234.dec : ∀ (v471 : IVec S16 32), Decidable (k0_chk1234 v471) := fun v471 => decidable_of_iff' _ (Iff.of_eq (k0_chk1234.eq_1 v471))
theorem k0_idx1234_inb : ∀ (v471 : IVec S16 32) (k0_hw1234 : k0_chk1234 v471), ∀ a x, ((![v471] : Fin 1 → IVec S16 32) a x).toNat < S100000.size a := fun v471 k0_hw1234 => k0_hw1234
def k0_off1428 (k0_t117 : Fin k0_t117_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1235 (v478 : IVec S16 32) : Prop :=
  (∀ a x, ((![v478] : Fin 1 → IVec S16 32) a x).toNat < S100000.size a)
instance k0_chk1235.dec : ∀ (v478 : IVec S16 32), Decidable (k0_chk1235 v478) := fun v478 => decidable_of_iff' _ (Iff.of_eq (k0_chk1235.eq_1 v478))
theorem k0_idx1235_inb : ∀ (v478 : IVec S16 32) (k0_hw1235 : k0_chk1235 v478), ∀ a x, ((![v478] : Fin 1 → IVec S16 32) a x).toNat < S100000.size a := fun v478 k0_hw1235 => k0_hw1235
def k0_off1429 (k0_t117 : Fin k0_t117_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1236 (v485 : IVec S16 32) : Prop :=
  (∀ a x, ((![v485] : Fin 1 → IVec S16 32) a x).toNat < S100000.size a)
instance k0_chk1236.dec : ∀ (v485 : IVec S16 32), Decidable (k0_chk1236 v485) := fun v485 => decidable_of_iff' _ (Iff.of_eq (k0_chk1236.eq_1 v485))
theorem k0_idx1236_inb : ∀ (v485 : IVec S16 32) (k0_hw1236 : k0_chk1236 v485), ∀ a x, ((![v485] : Fin 1 → IVec S16 32) a x).toNat < S100000.size a := fun v485 k0_hw1236 => k0_hw1236
def k0_off1430 (k0_t117 : Fin k0_t117_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1237 (v492 : IVec S16 32) : Prop :=
  (∀ a x, ((![v492] : Fin 1 → IVec S16 32) a x).toNat < S100000.size a)
instance k0_chk1237.dec : ∀ (v492 : IVec S16 32), Decidable (k0_chk1237 v492) := fun v492 => decidable_of_iff' _ (Iff.of_eq (k0_chk1237.eq_1 v492))
theorem k0_idx1237_inb : ∀ (v492 : IVec S16 32) (k0_hw1237 : k0_chk1237 v492), ∀ a x, ((![v492] : Fin 1 → IVec S16 32) a x).toNat < S100000.size a := fun v492 k0_hw1237 => k0_hw1237
def k0_off1431 (k0_t117 : Fin k0_t117_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1238 (v499 : IVec S16 32) : Prop :=
  (∀ a x, ((![v499] : Fin 1 → IVec S16 32) a x).toNat < S100000.size a)
instance k0_chk1238.dec : ∀ (v499 : IVec S16 32), Decidable (k0_chk1238 v499) := fun v499 => decidable_of_iff' _ (Iff.of_eq (k0_chk1238.eq_1 v499))
theorem k0_idx1238_inb : ∀ (v499 : IVec S16 32) (k0_hw1238 : k0_chk1238 v499), ∀ a x, ((![v499] : Fin 1 → IVec S16 32) a x).toNat < S100000.size a := fun v499 k0_hw1238 => k0_hw1238
def k0_off1432 (k0_t117 : Fin k0_t117_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1239 (v506 : IVec S16 32) : Prop :=
  (∀ a x, ((![v506] : Fin 1 → IVec S16 32) a x).toNat < S100000.size a)
instance k0_chk1239.dec : ∀ (v506 : IVec S16 32), Decidable (k0_chk1239 v506) := fun v506 => decidable_of_iff' _ (Iff.of_eq (k0_chk1239.eq_1 v506))
theorem k0_idx1239_inb : ∀ (v506 : IVec S16 32) (k0_hw1239 : k0_chk1239 v506), ∀ a x, ((![v506] : Fin 1 → IVec S16 32) a x).toNat < S100000.size a := fun v506 k0_hw1239 => k0_hw1239
def k0_off1433 (k0_t117 : Fin k0_t117_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1240 (v513 : IVec S16 32) : Prop :=
  (∀ a x, ((![v513] : Fin 1 → IVec S16 32) a x).toNat < S100000.size a)
instance k0_chk1240.dec : ∀ (v513 : IVec S16 32), Decidable (k0_chk1240 v513) := fun v513 => decidable_of_iff' _ (Iff.of_eq (k0_chk1240.eq_1 v513))
theorem k0_idx1240_inb : ∀ (v513 : IVec S16 32) (k0_hw1240 : k0_chk1240 v513), ∀ a x, ((![v513] : Fin 1 → IVec S16 32) a x).toNat < S100000.size a := fun v513 k0_hw1240 => k0_hw1240
def k0_off1434 (k0_t117 : Fin k0_t117_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1241 (v520 : IVec S16 32) : Prop :=
  (∀ a x, ((![v520] : Fin 1 → IVec S16 32) a x).toNat < S100000.size a)
instance k0_chk1241.dec : ∀ (v520 : IVec S16 32), Decidable (k0_chk1241 v520) := fun v520 => decidable_of_iff' _ (Iff.of_eq (k0_chk1241.eq_1 v520))
theorem k0_idx1241_inb : ∀ (v520 : IVec S16 32) (k0_hw1241 : k0_chk1241 v520), ∀ a x, ((![v520] : Fin 1 → IVec S16 32) a x).toNat < S100000.size a := fun v520 k0_hw1241 => k0_hw1241
def k0_off1435 (k0_t117 : Fin k0_t117_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1242 (v527 : IVec S16 32) : Prop :=
  (∀ a x, ((![v527] : Fin 1 → IVec S16 32) a x).toNat < S100000.size a)
instance k0_chk1242.dec : ∀ (v527 : IVec S16 32), Decidable (k0_chk1242 v527) := fun v527 => decidable_of_iff' _ (Iff.of_eq (k0_chk1242.eq_1 v527))
theorem k0_idx1242_inb : ∀ (v527 : IVec S16 32) (k0_hw1242 : k0_chk1242 v527), ∀ a x, ((![v527] : Fin 1 → IVec S16 32) a x).toNat < S100000.size a := fun v527 k0_hw1242 => k0_hw1242
def k0_off1436 (k0_t117 : Fin k0_t117_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1243 (v534 : IVec S16 32) : Prop :=
  (∀ a x, ((![v534] : Fin 1 → IVec S16 32) a x).toNat < S100000.size a)
instance k0_chk1243.dec : ∀ (v534 : IVec S16 32), Decidable (k0_chk1243 v534) := fun v534 => decidable_of_iff' _ (Iff.of_eq (k0_chk1243.eq_1 v534))
theorem k0_idx1243_inb : ∀ (v534 : IVec S16 32) (k0_hw1243 : k0_chk1243 v534), ∀ a x, ((![v534] : Fin 1 → IVec S16 32) a x).toNat < S100000.size a := fun v534 k0_hw1243 => k0_hw1243
def k0_off1437 (k0_t117 : Fin k0_t117_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1244 (v541 : IVec S16 32) : Prop :=
  (∀ a x, ((![v541] : Fin 1 → IVec S16 32) a x).toNat < S100000.size a)
instance k0_chk1244.dec : ∀ (v541 : IVec S16 32), Decidable (k0_chk1244 v541) := fun v541 => decidable_of_iff' _ (Iff.of_eq (k0_chk1244.eq_1 v541))
theorem k0_idx1244_inb : ∀ (v541 : IVec S16 32) (k0_hw1244 : k0_chk1244 v541), ∀ a x, ((![v541] : Fin 1 → IVec S16 32) a x).toNat < S100000.size a := fun v541 k0_hw1244 => k0_hw1244
def k0_off1438 (k0_t117 : Fin k0_t117_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1245 (v548 : IVec S16 32) : Prop :=
  (∀ a x, ((![v548] : Fin 1 → IVec S16 32) a x).toNat < S100000.size a)
instance k0_chk1245.dec : ∀ (v548 : IVec S16 32), Decidable (k0_chk1245 v548) := fun v548 => decidable_of_iff' _ (Iff.of_eq (k0_chk1245.eq_1 v548))
theorem k0_idx1245_inb : ∀ (v548 : IVec S16 32) (k0_hw1245 : k0_chk1245 v548), ∀ a x, ((![v548] : Fin 1 → IVec S16 32) a x).toNat < S100000.size a := fun v548 k0_hw1245 => k0_hw1245
def k0_off1439 (k0_t117 : Fin k0_t117_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1246 (v555 : IVec S16 32) : Prop :=
  (∀ a x, ((![v555] : Fin 1 → IVec S16 32) a x).toNat < S100000.size a)
instance k0_chk1246.dec : ∀ (v555 : IVec S16 32), Decidable (k0_chk1246 v555) := fun v555 => decidable_of_iff' _ (Iff.of_eq (k0_chk1246.eq_1 v555))
theorem k0_idx1246_inb : ∀ (v555 : IVec S16 32) (k0_hw1246 : k0_chk1246 v555), ∀ a x, ((![v555] : Fin 1 → IVec S16 32) a x).toNat < S100000.size a := fun v555 k0_hw1246 => k0_hw1246
def k0_off1440 (k0_t117 : Fin k0_t117_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1247 (v562 : IVec S16 32) : Prop :=
  (∀ a x, ((![v562] : Fin 1 → IVec S16 32) a x).toNat < S100000.size a)
instance k0_chk1247.dec : ∀ (v562 : IVec S16 32), Decidable (k0_chk1247 v562) := fun v562 => decidable_of_iff' _ (Iff.of_eq (k0_chk1247.eq_1 v562))
theorem k0_idx1247_inb : ∀ (v562 : IVec S16 32) (k0_hw1247 : k0_chk1247 v562), ∀ a x, ((![v562] : Fin 1 → IVec S16 32) a x).toNat < S100000.size a := fun v562 k0_hw1247 => k0_hw1247
def k0_off1441 (k0_t117 : Fin k0_t117_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1248 (v569 : IVec S16 32) : Prop :=
  (∀ a x, ((![v569] : Fin 1 → IVec S16 32) a x).toNat < S100000.size a)
instance k0_chk1248.dec : ∀ (v569 : IVec S16 32), Decidable (k0_chk1248 v569) := fun v569 => decidable_of_iff' _ (Iff.of_eq (k0_chk1248.eq_1 v569))
theorem k0_idx1248_inb : ∀ (v569 : IVec S16 32) (k0_hw1248 : k0_chk1248 v569), ∀ a x, ((![v569] : Fin 1 → IVec S16 32) a x).toNat < S100000.size a := fun v569 k0_hw1248 => k0_hw1248
def k0_off1442 (k0_t117 : Fin k0_t117_loop.trips) : Fin 1 → Nat :=
  let c0_i32_281 : BitVec 32 := 0#32
  let c1_i32_283 : BitVec 32 := 1#32
  let arg36 : BitVec 32 := Scf.iv c0_i32_281 c1_i32_283 k0_t117
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1443 (i : grid0.Coords) (k0_t115 : Fin (k0_t115_loop i).trips) : Fin 2 → Nat :=
  let c684_i32_285 : BitVec 32 := 684#32
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c1_i32_212 : BitVec 32 := 1#32
  let arg34 : BitVec 32 := Scf.iv v345 c1_i32_212 k0_t115
  let v460 : BitVec 32 := Scalar.addi c684_i32_285 arg34
  let c8192_i32_r156 : BitVec 32 := 8192#32
  ![v460.toNat, 8192]
@[reducible] def k0_t118_loop (i : grid0.Coords) : Scf.Loop 32 :=
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c36_i32_208 : BitVec 32 := 36#32
  let c0_i32_207 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c684_i32_206 : BitVec 32 := 684#32
  let v346 : BitVec 32 := Scalar.subi v38 c684_i32_206
  let v347 : BitVec 32 := Scalar.maxsi c0_i32_207 v346
  let v348 : BitVec 32 := Scalar.minsi c36_i32_208 v347
  let v352 : BitVec 32 := Scalar.subi v348 v345
  let c1_i32_211 : BitVec 32 := 1#32
  let v354 : BitVec 32 := Scalar.divsi v352 c1_i32_211
  let v355 : BitVec 32 := Scalar.muli v354 c1_i32_211
  let v356 : BitVec 32 := Scalar.addi v345 v355
  let v353 : BitVec 32 := Scalar.addi v345 v352
  let c1_i32_213 : BitVec 32 := 1#32
  ⟨v356, v353, c1_i32_213⟩
def k0_off1444 (i : grid0.Coords) (k0_t118 : Fin (k0_t118_loop i).trips) : Fin 2 → Nat :=
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c36_i32_208 : BitVec 32 := 36#32
  let c0_i32_207 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c684_i32_206 : BitVec 32 := 684#32
  let v346 : BitVec 32 := Scalar.subi v38 c684_i32_206
  let v347 : BitVec 32 := Scalar.maxsi c0_i32_207 v346
  let v348 : BitVec 32 := Scalar.minsi c36_i32_208 v347
  let v352 : BitVec 32 := Scalar.subi v348 v345
  let c1_i32_211 : BitVec 32 := 1#32
  let v354 : BitVec 32 := Scalar.divsi v352 c1_i32_211
  let v355 : BitVec 32 := Scalar.muli v354 c1_i32_211
  let v356 : BitVec 32 := Scalar.addi v345 v355
  let c1_i32_213 : BitVec 32 := 1#32
  let arg34 : BitVec 32 := Scf.iv v356 c1_i32_213 k0_t118
  let c0_i32_287_r157 : BitVec 32 := 0#32
  ![arg34.toNat, 0]
@[reducible] def k0_t119_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1445 (k0_t119 : Fin k0_t119_loop.trips) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1249 (v464 : IVec S16 32) : Prop :=
  (∀ a x, ((![v464] : Fin 1 → IVec S16 32) a x).toNat < S100000.size a)
instance k0_chk1249.dec : ∀ (v464 : IVec S16 32), Decidable (k0_chk1249 v464) := fun v464 => decidable_of_iff' _ (Iff.of_eq (k0_chk1249.eq_1 v464))
theorem k0_idx1249_inb : ∀ (v464 : IVec S16 32) (k0_hw1249 : k0_chk1249 v464), ∀ a x, ((![v464] : Fin 1 → IVec S16 32) a x).toNat < S100000.size a := fun v464 k0_hw1249 => k0_hw1249
def k0_off1446 (k0_t119 : Fin k0_t119_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1250 (v471 : IVec S16 32) : Prop :=
  (∀ a x, ((![v471] : Fin 1 → IVec S16 32) a x).toNat < S100000.size a)
instance k0_chk1250.dec : ∀ (v471 : IVec S16 32), Decidable (k0_chk1250 v471) := fun v471 => decidable_of_iff' _ (Iff.of_eq (k0_chk1250.eq_1 v471))
theorem k0_idx1250_inb : ∀ (v471 : IVec S16 32) (k0_hw1250 : k0_chk1250 v471), ∀ a x, ((![v471] : Fin 1 → IVec S16 32) a x).toNat < S100000.size a := fun v471 k0_hw1250 => k0_hw1250
def k0_off1447 (k0_t119 : Fin k0_t119_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1251 (v478 : IVec S16 32) : Prop :=
  (∀ a x, ((![v478] : Fin 1 → IVec S16 32) a x).toNat < S100000.size a)
instance k0_chk1251.dec : ∀ (v478 : IVec S16 32), Decidable (k0_chk1251 v478) := fun v478 => decidable_of_iff' _ (Iff.of_eq (k0_chk1251.eq_1 v478))
theorem k0_idx1251_inb : ∀ (v478 : IVec S16 32) (k0_hw1251 : k0_chk1251 v478), ∀ a x, ((![v478] : Fin 1 → IVec S16 32) a x).toNat < S100000.size a := fun v478 k0_hw1251 => k0_hw1251
def k0_off1448 (k0_t119 : Fin k0_t119_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1252 (v485 : IVec S16 32) : Prop :=
  (∀ a x, ((![v485] : Fin 1 → IVec S16 32) a x).toNat < S100000.size a)
instance k0_chk1252.dec : ∀ (v485 : IVec S16 32), Decidable (k0_chk1252 v485) := fun v485 => decidable_of_iff' _ (Iff.of_eq (k0_chk1252.eq_1 v485))
theorem k0_idx1252_inb : ∀ (v485 : IVec S16 32) (k0_hw1252 : k0_chk1252 v485), ∀ a x, ((![v485] : Fin 1 → IVec S16 32) a x).toNat < S100000.size a := fun v485 k0_hw1252 => k0_hw1252
def k0_off1449 (k0_t119 : Fin k0_t119_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1253 (v492 : IVec S16 32) : Prop :=
  (∀ a x, ((![v492] : Fin 1 → IVec S16 32) a x).toNat < S100000.size a)
instance k0_chk1253.dec : ∀ (v492 : IVec S16 32), Decidable (k0_chk1253 v492) := fun v492 => decidable_of_iff' _ (Iff.of_eq (k0_chk1253.eq_1 v492))
theorem k0_idx1253_inb : ∀ (v492 : IVec S16 32) (k0_hw1253 : k0_chk1253 v492), ∀ a x, ((![v492] : Fin 1 → IVec S16 32) a x).toNat < S100000.size a := fun v492 k0_hw1253 => k0_hw1253
def k0_off1450 (k0_t119 : Fin k0_t119_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1254 (v499 : IVec S16 32) : Prop :=
  (∀ a x, ((![v499] : Fin 1 → IVec S16 32) a x).toNat < S100000.size a)
instance k0_chk1254.dec : ∀ (v499 : IVec S16 32), Decidable (k0_chk1254 v499) := fun v499 => decidable_of_iff' _ (Iff.of_eq (k0_chk1254.eq_1 v499))
theorem k0_idx1254_inb : ∀ (v499 : IVec S16 32) (k0_hw1254 : k0_chk1254 v499), ∀ a x, ((![v499] : Fin 1 → IVec S16 32) a x).toNat < S100000.size a := fun v499 k0_hw1254 => k0_hw1254
def k0_off1451 (k0_t119 : Fin k0_t119_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1255 (v506 : IVec S16 32) : Prop :=
  (∀ a x, ((![v506] : Fin 1 → IVec S16 32) a x).toNat < S100000.size a)
instance k0_chk1255.dec : ∀ (v506 : IVec S16 32), Decidable (k0_chk1255 v506) := fun v506 => decidable_of_iff' _ (Iff.of_eq (k0_chk1255.eq_1 v506))
theorem k0_idx1255_inb : ∀ (v506 : IVec S16 32) (k0_hw1255 : k0_chk1255 v506), ∀ a x, ((![v506] : Fin 1 → IVec S16 32) a x).toNat < S100000.size a := fun v506 k0_hw1255 => k0_hw1255
def k0_off1452 (k0_t119 : Fin k0_t119_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1256 (v513 : IVec S16 32) : Prop :=
  (∀ a x, ((![v513] : Fin 1 → IVec S16 32) a x).toNat < S100000.size a)
instance k0_chk1256.dec : ∀ (v513 : IVec S16 32), Decidable (k0_chk1256 v513) := fun v513 => decidable_of_iff' _ (Iff.of_eq (k0_chk1256.eq_1 v513))
theorem k0_idx1256_inb : ∀ (v513 : IVec S16 32) (k0_hw1256 : k0_chk1256 v513), ∀ a x, ((![v513] : Fin 1 → IVec S16 32) a x).toNat < S100000.size a := fun v513 k0_hw1256 => k0_hw1256
def k0_off1453 (k0_t119 : Fin k0_t119_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1257 (v520 : IVec S16 32) : Prop :=
  (∀ a x, ((![v520] : Fin 1 → IVec S16 32) a x).toNat < S100000.size a)
instance k0_chk1257.dec : ∀ (v520 : IVec S16 32), Decidable (k0_chk1257 v520) := fun v520 => decidable_of_iff' _ (Iff.of_eq (k0_chk1257.eq_1 v520))
theorem k0_idx1257_inb : ∀ (v520 : IVec S16 32) (k0_hw1257 : k0_chk1257 v520), ∀ a x, ((![v520] : Fin 1 → IVec S16 32) a x).toNat < S100000.size a := fun v520 k0_hw1257 => k0_hw1257
def k0_off1454 (k0_t119 : Fin k0_t119_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1258 (v527 : IVec S16 32) : Prop :=
  (∀ a x, ((![v527] : Fin 1 → IVec S16 32) a x).toNat < S100000.size a)
instance k0_chk1258.dec : ∀ (v527 : IVec S16 32), Decidable (k0_chk1258 v527) := fun v527 => decidable_of_iff' _ (Iff.of_eq (k0_chk1258.eq_1 v527))
theorem k0_idx1258_inb : ∀ (v527 : IVec S16 32) (k0_hw1258 : k0_chk1258 v527), ∀ a x, ((![v527] : Fin 1 → IVec S16 32) a x).toNat < S100000.size a := fun v527 k0_hw1258 => k0_hw1258
def k0_off1455 (k0_t119 : Fin k0_t119_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1259 (v534 : IVec S16 32) : Prop :=
  (∀ a x, ((![v534] : Fin 1 → IVec S16 32) a x).toNat < S100000.size a)
instance k0_chk1259.dec : ∀ (v534 : IVec S16 32), Decidable (k0_chk1259 v534) := fun v534 => decidable_of_iff' _ (Iff.of_eq (k0_chk1259.eq_1 v534))
theorem k0_idx1259_inb : ∀ (v534 : IVec S16 32) (k0_hw1259 : k0_chk1259 v534), ∀ a x, ((![v534] : Fin 1 → IVec S16 32) a x).toNat < S100000.size a := fun v534 k0_hw1259 => k0_hw1259
def k0_off1456 (k0_t119 : Fin k0_t119_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1260 (v541 : IVec S16 32) : Prop :=
  (∀ a x, ((![v541] : Fin 1 → IVec S16 32) a x).toNat < S100000.size a)
instance k0_chk1260.dec : ∀ (v541 : IVec S16 32), Decidable (k0_chk1260 v541) := fun v541 => decidable_of_iff' _ (Iff.of_eq (k0_chk1260.eq_1 v541))
theorem k0_idx1260_inb : ∀ (v541 : IVec S16 32) (k0_hw1260 : k0_chk1260 v541), ∀ a x, ((![v541] : Fin 1 → IVec S16 32) a x).toNat < S100000.size a := fun v541 k0_hw1260 => k0_hw1260
def k0_off1457 (k0_t119 : Fin k0_t119_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1261 (v548 : IVec S16 32) : Prop :=
  (∀ a x, ((![v548] : Fin 1 → IVec S16 32) a x).toNat < S100000.size a)
instance k0_chk1261.dec : ∀ (v548 : IVec S16 32), Decidable (k0_chk1261 v548) := fun v548 => decidable_of_iff' _ (Iff.of_eq (k0_chk1261.eq_1 v548))
theorem k0_idx1261_inb : ∀ (v548 : IVec S16 32) (k0_hw1261 : k0_chk1261 v548), ∀ a x, ((![v548] : Fin 1 → IVec S16 32) a x).toNat < S100000.size a := fun v548 k0_hw1261 => k0_hw1261
def k0_off1458 (k0_t119 : Fin k0_t119_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1262 (v555 : IVec S16 32) : Prop :=
  (∀ a x, ((![v555] : Fin 1 → IVec S16 32) a x).toNat < S100000.size a)
instance k0_chk1262.dec : ∀ (v555 : IVec S16 32), Decidable (k0_chk1262 v555) := fun v555 => decidable_of_iff' _ (Iff.of_eq (k0_chk1262.eq_1 v555))
theorem k0_idx1262_inb : ∀ (v555 : IVec S16 32) (k0_hw1262 : k0_chk1262 v555), ∀ a x, ((![v555] : Fin 1 → IVec S16 32) a x).toNat < S100000.size a := fun v555 k0_hw1262 => k0_hw1262
def k0_off1459 (k0_t119 : Fin k0_t119_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1263 (v562 : IVec S16 32) : Prop :=
  (∀ a x, ((![v562] : Fin 1 → IVec S16 32) a x).toNat < S100000.size a)
instance k0_chk1263.dec : ∀ (v562 : IVec S16 32), Decidable (k0_chk1263 v562) := fun v562 => decidable_of_iff' _ (Iff.of_eq (k0_chk1263.eq_1 v562))
theorem k0_idx1263_inb : ∀ (v562 : IVec S16 32) (k0_hw1263 : k0_chk1263 v562), ∀ a x, ((![v562] : Fin 1 → IVec S16 32) a x).toNat < S100000.size a := fun v562 k0_hw1263 => k0_hw1263
def k0_off1460 (k0_t119 : Fin k0_t119_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1264 (v569 : IVec S16 32) : Prop :=
  (∀ a x, ((![v569] : Fin 1 → IVec S16 32) a x).toNat < S100000.size a)
instance k0_chk1264.dec : ∀ (v569 : IVec S16 32), Decidable (k0_chk1264 v569) := fun v569 => decidable_of_iff' _ (Iff.of_eq (k0_chk1264.eq_1 v569))
theorem k0_idx1264_inb : ∀ (v569 : IVec S16 32) (k0_hw1264 : k0_chk1264 v569), ∀ a x, ((![v569] : Fin 1 → IVec S16 32) a x).toNat < S100000.size a := fun v569 k0_hw1264 => k0_hw1264
def k0_off1461 (k0_t119 : Fin k0_t119_loop.trips) : Fin 1 → Nat :=
  let c0_i32_275 : BitVec 32 := 0#32
  let c1_i32_277 : BitVec 32 := 1#32
  let arg36 : BitVec 32 := Scf.iv c0_i32_275 c1_i32_277 k0_t119
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1462 (i : grid0.Coords) (k0_t118 : Fin (k0_t118_loop i).trips) : Fin 2 → Nat :=
  let c684_i32_279 : BitVec 32 := 684#32
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c36_i32_208 : BitVec 32 := 36#32
  let c0_i32_207 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c684_i32_206 : BitVec 32 := 684#32
  let v346 : BitVec 32 := Scalar.subi v38 c684_i32_206
  let v347 : BitVec 32 := Scalar.maxsi c0_i32_207 v346
  let v348 : BitVec 32 := Scalar.minsi c36_i32_208 v347
  let v352 : BitVec 32 := Scalar.subi v348 v345
  let c1_i32_211 : BitVec 32 := 1#32
  let v354 : BitVec 32 := Scalar.divsi v352 c1_i32_211
  let v355 : BitVec 32 := Scalar.muli v354 c1_i32_211
  let v356 : BitVec 32 := Scalar.addi v345 v355
  let c1_i32_213 : BitVec 32 := 1#32
  let arg34 : BitVec 32 := Scf.iv v356 c1_i32_213 k0_t118
  let v457 : BitVec 32 := Scalar.addi c684_i32_279 arg34
  let c0_i32_287_r158 : BitVec 32 := 0#32
  ![v457.toNat, 0]
@[reducible] def k0_t120_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1463 (k0_t120 : Fin k0_t120_loop.trips) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1265 (v464 : IVec S16 32) : Prop :=
  (∀ a x, ((![v464] : Fin 1 → IVec S16 32) a x).toNat < S100000.size a)
instance k0_chk1265.dec : ∀ (v464 : IVec S16 32), Decidable (k0_chk1265 v464) := fun v464 => decidable_of_iff' _ (Iff.of_eq (k0_chk1265.eq_1 v464))
theorem k0_idx1265_inb : ∀ (v464 : IVec S16 32) (k0_hw1265 : k0_chk1265 v464), ∀ a x, ((![v464] : Fin 1 → IVec S16 32) a x).toNat < S100000.size a := fun v464 k0_hw1265 => k0_hw1265
def k0_off1464 (k0_t120 : Fin k0_t120_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1266 (v471 : IVec S16 32) : Prop :=
  (∀ a x, ((![v471] : Fin 1 → IVec S16 32) a x).toNat < S100000.size a)
instance k0_chk1266.dec : ∀ (v471 : IVec S16 32), Decidable (k0_chk1266 v471) := fun v471 => decidable_of_iff' _ (Iff.of_eq (k0_chk1266.eq_1 v471))
theorem k0_idx1266_inb : ∀ (v471 : IVec S16 32) (k0_hw1266 : k0_chk1266 v471), ∀ a x, ((![v471] : Fin 1 → IVec S16 32) a x).toNat < S100000.size a := fun v471 k0_hw1266 => k0_hw1266
def k0_off1465 (k0_t120 : Fin k0_t120_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1267 (v478 : IVec S16 32) : Prop :=
  (∀ a x, ((![v478] : Fin 1 → IVec S16 32) a x).toNat < S100000.size a)
instance k0_chk1267.dec : ∀ (v478 : IVec S16 32), Decidable (k0_chk1267 v478) := fun v478 => decidable_of_iff' _ (Iff.of_eq (k0_chk1267.eq_1 v478))
theorem k0_idx1267_inb : ∀ (v478 : IVec S16 32) (k0_hw1267 : k0_chk1267 v478), ∀ a x, ((![v478] : Fin 1 → IVec S16 32) a x).toNat < S100000.size a := fun v478 k0_hw1267 => k0_hw1267
def k0_off1466 (k0_t120 : Fin k0_t120_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1268 (v485 : IVec S16 32) : Prop :=
  (∀ a x, ((![v485] : Fin 1 → IVec S16 32) a x).toNat < S100000.size a)
instance k0_chk1268.dec : ∀ (v485 : IVec S16 32), Decidable (k0_chk1268 v485) := fun v485 => decidable_of_iff' _ (Iff.of_eq (k0_chk1268.eq_1 v485))
theorem k0_idx1268_inb : ∀ (v485 : IVec S16 32) (k0_hw1268 : k0_chk1268 v485), ∀ a x, ((![v485] : Fin 1 → IVec S16 32) a x).toNat < S100000.size a := fun v485 k0_hw1268 => k0_hw1268
def k0_off1467 (k0_t120 : Fin k0_t120_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1269 (v492 : IVec S16 32) : Prop :=
  (∀ a x, ((![v492] : Fin 1 → IVec S16 32) a x).toNat < S100000.size a)
instance k0_chk1269.dec : ∀ (v492 : IVec S16 32), Decidable (k0_chk1269 v492) := fun v492 => decidable_of_iff' _ (Iff.of_eq (k0_chk1269.eq_1 v492))
theorem k0_idx1269_inb : ∀ (v492 : IVec S16 32) (k0_hw1269 : k0_chk1269 v492), ∀ a x, ((![v492] : Fin 1 → IVec S16 32) a x).toNat < S100000.size a := fun v492 k0_hw1269 => k0_hw1269
def k0_off1468 (k0_t120 : Fin k0_t120_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1270 (v499 : IVec S16 32) : Prop :=
  (∀ a x, ((![v499] : Fin 1 → IVec S16 32) a x).toNat < S100000.size a)
instance k0_chk1270.dec : ∀ (v499 : IVec S16 32), Decidable (k0_chk1270 v499) := fun v499 => decidable_of_iff' _ (Iff.of_eq (k0_chk1270.eq_1 v499))
theorem k0_idx1270_inb : ∀ (v499 : IVec S16 32) (k0_hw1270 : k0_chk1270 v499), ∀ a x, ((![v499] : Fin 1 → IVec S16 32) a x).toNat < S100000.size a := fun v499 k0_hw1270 => k0_hw1270
def k0_off1469 (k0_t120 : Fin k0_t120_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1271 (v506 : IVec S16 32) : Prop :=
  (∀ a x, ((![v506] : Fin 1 → IVec S16 32) a x).toNat < S100000.size a)
instance k0_chk1271.dec : ∀ (v506 : IVec S16 32), Decidable (k0_chk1271 v506) := fun v506 => decidable_of_iff' _ (Iff.of_eq (k0_chk1271.eq_1 v506))
theorem k0_idx1271_inb : ∀ (v506 : IVec S16 32) (k0_hw1271 : k0_chk1271 v506), ∀ a x, ((![v506] : Fin 1 → IVec S16 32) a x).toNat < S100000.size a := fun v506 k0_hw1271 => k0_hw1271
def k0_off1470 (k0_t120 : Fin k0_t120_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1272 (v513 : IVec S16 32) : Prop :=
  (∀ a x, ((![v513] : Fin 1 → IVec S16 32) a x).toNat < S100000.size a)
instance k0_chk1272.dec : ∀ (v513 : IVec S16 32), Decidable (k0_chk1272 v513) := fun v513 => decidable_of_iff' _ (Iff.of_eq (k0_chk1272.eq_1 v513))
theorem k0_idx1272_inb : ∀ (v513 : IVec S16 32) (k0_hw1272 : k0_chk1272 v513), ∀ a x, ((![v513] : Fin 1 → IVec S16 32) a x).toNat < S100000.size a := fun v513 k0_hw1272 => k0_hw1272
def k0_off1471 (k0_t120 : Fin k0_t120_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1273 (v520 : IVec S16 32) : Prop :=
  (∀ a x, ((![v520] : Fin 1 → IVec S16 32) a x).toNat < S100000.size a)
instance k0_chk1273.dec : ∀ (v520 : IVec S16 32), Decidable (k0_chk1273 v520) := fun v520 => decidable_of_iff' _ (Iff.of_eq (k0_chk1273.eq_1 v520))
theorem k0_idx1273_inb : ∀ (v520 : IVec S16 32) (k0_hw1273 : k0_chk1273 v520), ∀ a x, ((![v520] : Fin 1 → IVec S16 32) a x).toNat < S100000.size a := fun v520 k0_hw1273 => k0_hw1273
def k0_off1472 (k0_t120 : Fin k0_t120_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1274 (v527 : IVec S16 32) : Prop :=
  (∀ a x, ((![v527] : Fin 1 → IVec S16 32) a x).toNat < S100000.size a)
instance k0_chk1274.dec : ∀ (v527 : IVec S16 32), Decidable (k0_chk1274 v527) := fun v527 => decidable_of_iff' _ (Iff.of_eq (k0_chk1274.eq_1 v527))
theorem k0_idx1274_inb : ∀ (v527 : IVec S16 32) (k0_hw1274 : k0_chk1274 v527), ∀ a x, ((![v527] : Fin 1 → IVec S16 32) a x).toNat < S100000.size a := fun v527 k0_hw1274 => k0_hw1274
def k0_off1473 (k0_t120 : Fin k0_t120_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1275 (v534 : IVec S16 32) : Prop :=
  (∀ a x, ((![v534] : Fin 1 → IVec S16 32) a x).toNat < S100000.size a)
instance k0_chk1275.dec : ∀ (v534 : IVec S16 32), Decidable (k0_chk1275 v534) := fun v534 => decidable_of_iff' _ (Iff.of_eq (k0_chk1275.eq_1 v534))
theorem k0_idx1275_inb : ∀ (v534 : IVec S16 32) (k0_hw1275 : k0_chk1275 v534), ∀ a x, ((![v534] : Fin 1 → IVec S16 32) a x).toNat < S100000.size a := fun v534 k0_hw1275 => k0_hw1275
def k0_off1474 (k0_t120 : Fin k0_t120_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1276 (v541 : IVec S16 32) : Prop :=
  (∀ a x, ((![v541] : Fin 1 → IVec S16 32) a x).toNat < S100000.size a)
instance k0_chk1276.dec : ∀ (v541 : IVec S16 32), Decidable (k0_chk1276 v541) := fun v541 => decidable_of_iff' _ (Iff.of_eq (k0_chk1276.eq_1 v541))
theorem k0_idx1276_inb : ∀ (v541 : IVec S16 32) (k0_hw1276 : k0_chk1276 v541), ∀ a x, ((![v541] : Fin 1 → IVec S16 32) a x).toNat < S100000.size a := fun v541 k0_hw1276 => k0_hw1276
def k0_off1475 (k0_t120 : Fin k0_t120_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1277 (v548 : IVec S16 32) : Prop :=
  (∀ a x, ((![v548] : Fin 1 → IVec S16 32) a x).toNat < S100000.size a)
instance k0_chk1277.dec : ∀ (v548 : IVec S16 32), Decidable (k0_chk1277 v548) := fun v548 => decidable_of_iff' _ (Iff.of_eq (k0_chk1277.eq_1 v548))
theorem k0_idx1277_inb : ∀ (v548 : IVec S16 32) (k0_hw1277 : k0_chk1277 v548), ∀ a x, ((![v548] : Fin 1 → IVec S16 32) a x).toNat < S100000.size a := fun v548 k0_hw1277 => k0_hw1277
def k0_off1476 (k0_t120 : Fin k0_t120_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1278 (v555 : IVec S16 32) : Prop :=
  (∀ a x, ((![v555] : Fin 1 → IVec S16 32) a x).toNat < S100000.size a)
instance k0_chk1278.dec : ∀ (v555 : IVec S16 32), Decidable (k0_chk1278 v555) := fun v555 => decidable_of_iff' _ (Iff.of_eq (k0_chk1278.eq_1 v555))
theorem k0_idx1278_inb : ∀ (v555 : IVec S16 32) (k0_hw1278 : k0_chk1278 v555), ∀ a x, ((![v555] : Fin 1 → IVec S16 32) a x).toNat < S100000.size a := fun v555 k0_hw1278 => k0_hw1278
def k0_off1477 (k0_t120 : Fin k0_t120_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1279 (v562 : IVec S16 32) : Prop :=
  (∀ a x, ((![v562] : Fin 1 → IVec S16 32) a x).toNat < S100000.size a)
instance k0_chk1279.dec : ∀ (v562 : IVec S16 32), Decidable (k0_chk1279 v562) := fun v562 => decidable_of_iff' _ (Iff.of_eq (k0_chk1279.eq_1 v562))
theorem k0_idx1279_inb : ∀ (v562 : IVec S16 32) (k0_hw1279 : k0_chk1279 v562), ∀ a x, ((![v562] : Fin 1 → IVec S16 32) a x).toNat < S100000.size a := fun v562 k0_hw1279 => k0_hw1279
def k0_off1478 (k0_t120 : Fin k0_t120_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1280 (v569 : IVec S16 32) : Prop :=
  (∀ a x, ((![v569] : Fin 1 → IVec S16 32) a x).toNat < S100000.size a)
instance k0_chk1280.dec : ∀ (v569 : IVec S16 32), Decidable (k0_chk1280 v569) := fun v569 => decidable_of_iff' _ (Iff.of_eq (k0_chk1280.eq_1 v569))
theorem k0_idx1280_inb : ∀ (v569 : IVec S16 32) (k0_hw1280 : k0_chk1280 v569), ∀ a x, ((![v569] : Fin 1 → IVec S16 32) a x).toNat < S100000.size a := fun v569 k0_hw1280 => k0_hw1280
def k0_off1479 (k0_t120 : Fin k0_t120_loop.trips) : Fin 1 → Nat :=
  let c0_i32_281 : BitVec 32 := 0#32
  let c1_i32_283 : BitVec 32 := 1#32
  let arg36 : BitVec 32 := Scf.iv c0_i32_281 c1_i32_283 k0_t120
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1480 (i : grid0.Coords) (k0_t118 : Fin (k0_t118_loop i).trips) : Fin 2 → Nat :=
  let c684_i32_285 : BitVec 32 := 684#32
  let c36_i32_205 : BitVec 32 := 36#32
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c684_i32 : BitVec 32 := 684#32
  let v343 : BitVec 32 := Scalar.subi v19 c684_i32
  let v344 : BitVec 32 := Scalar.maxsi c0_i32_204 v343
  let v345 : BitVec 32 := Scalar.minsi c36_i32_205 v344
  let c36_i32_208 : BitVec 32 := 36#32
  let c0_i32_207 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c684_i32_206 : BitVec 32 := 684#32
  let v346 : BitVec 32 := Scalar.subi v38 c684_i32_206
  let v347 : BitVec 32 := Scalar.maxsi c0_i32_207 v346
  let v348 : BitVec 32 := Scalar.minsi c36_i32_208 v347
  let v352 : BitVec 32 := Scalar.subi v348 v345
  let c1_i32_211 : BitVec 32 := 1#32
  let v354 : BitVec 32 := Scalar.divsi v352 c1_i32_211
  let v355 : BitVec 32 := Scalar.muli v354 c1_i32_211
  let v356 : BitVec 32 := Scalar.addi v345 v355
  let c1_i32_213 : BitVec 32 := 1#32
  let arg34 : BitVec 32 := Scf.iv v356 c1_i32_213 k0_t118
  let v460 : BitVec 32 := Scalar.addi c684_i32_285 arg34
  let c8192_i32_r159 : BitVec 32 := 8192#32
  ![v460.toNat, 8192]
@[reducible] def k0_t121_loop (i : grid0.Coords) : Scf.Loop 32 :=
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c36_i32_218 : BitVec 32 := 36#32
  let c0_i32_217 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c720_i32_216 : BitVec 32 := 720#32
  let v362 : BitVec 32 := Scalar.subi v38 c720_i32_216
  let v363 : BitVec 32 := Scalar.maxsi c0_i32_217 v362
  let v364 : BitVec 32 := Scalar.minsi c36_i32_218 v363
  let v368 : BitVec 32 := Scalar.subi v364 v361
  let c1_i32_221 : BitVec 32 := 1#32
  let v370 : BitVec 32 := Scalar.divsi v368 c1_i32_221
  let v371 : BitVec 32 := Scalar.muli v370 c1_i32_221
  let v372 : BitVec 32 := Scalar.addi v361 v371
  let c1_i32_222 : BitVec 32 := 1#32
  ⟨v361, v372, c1_i32_222⟩
def k0_off1481 (i : grid0.Coords) (k0_t121 : Fin (k0_t121_loop i).trips) : Fin 2 → Nat :=
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c1_i32_222 : BitVec 32 := 1#32
  let arg34 : BitVec 32 := Scf.iv v361 c1_i32_222 k0_t121
  let c0_i32_287_r162 : BitVec 32 := 0#32
  ![arg34.toNat, 0]
@[reducible] def k0_t122_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1482 (k0_t122 : Fin k0_t122_loop.trips) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1281 (v464 : IVec S16 32) : Prop :=
  (∀ a x, ((![v464] : Fin 1 → IVec S16 32) a x).toNat < S100000.size a)
instance k0_chk1281.dec : ∀ (v464 : IVec S16 32), Decidable (k0_chk1281 v464) := fun v464 => decidable_of_iff' _ (Iff.of_eq (k0_chk1281.eq_1 v464))
theorem k0_idx1281_inb : ∀ (v464 : IVec S16 32) (k0_hw1281 : k0_chk1281 v464), ∀ a x, ((![v464] : Fin 1 → IVec S16 32) a x).toNat < S100000.size a := fun v464 k0_hw1281 => k0_hw1281
def k0_off1483 (k0_t122 : Fin k0_t122_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1282 (v471 : IVec S16 32) : Prop :=
  (∀ a x, ((![v471] : Fin 1 → IVec S16 32) a x).toNat < S100000.size a)
instance k0_chk1282.dec : ∀ (v471 : IVec S16 32), Decidable (k0_chk1282 v471) := fun v471 => decidable_of_iff' _ (Iff.of_eq (k0_chk1282.eq_1 v471))
theorem k0_idx1282_inb : ∀ (v471 : IVec S16 32) (k0_hw1282 : k0_chk1282 v471), ∀ a x, ((![v471] : Fin 1 → IVec S16 32) a x).toNat < S100000.size a := fun v471 k0_hw1282 => k0_hw1282
def k0_off1484 (k0_t122 : Fin k0_t122_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1283 (v478 : IVec S16 32) : Prop :=
  (∀ a x, ((![v478] : Fin 1 → IVec S16 32) a x).toNat < S100000.size a)
instance k0_chk1283.dec : ∀ (v478 : IVec S16 32), Decidable (k0_chk1283 v478) := fun v478 => decidable_of_iff' _ (Iff.of_eq (k0_chk1283.eq_1 v478))
theorem k0_idx1283_inb : ∀ (v478 : IVec S16 32) (k0_hw1283 : k0_chk1283 v478), ∀ a x, ((![v478] : Fin 1 → IVec S16 32) a x).toNat < S100000.size a := fun v478 k0_hw1283 => k0_hw1283
def k0_off1485 (k0_t122 : Fin k0_t122_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1284 (v485 : IVec S16 32) : Prop :=
  (∀ a x, ((![v485] : Fin 1 → IVec S16 32) a x).toNat < S100000.size a)
instance k0_chk1284.dec : ∀ (v485 : IVec S16 32), Decidable (k0_chk1284 v485) := fun v485 => decidable_of_iff' _ (Iff.of_eq (k0_chk1284.eq_1 v485))
theorem k0_idx1284_inb : ∀ (v485 : IVec S16 32) (k0_hw1284 : k0_chk1284 v485), ∀ a x, ((![v485] : Fin 1 → IVec S16 32) a x).toNat < S100000.size a := fun v485 k0_hw1284 => k0_hw1284
def k0_off1486 (k0_t122 : Fin k0_t122_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1285 (v492 : IVec S16 32) : Prop :=
  (∀ a x, ((![v492] : Fin 1 → IVec S16 32) a x).toNat < S100000.size a)
instance k0_chk1285.dec : ∀ (v492 : IVec S16 32), Decidable (k0_chk1285 v492) := fun v492 => decidable_of_iff' _ (Iff.of_eq (k0_chk1285.eq_1 v492))
theorem k0_idx1285_inb : ∀ (v492 : IVec S16 32) (k0_hw1285 : k0_chk1285 v492), ∀ a x, ((![v492] : Fin 1 → IVec S16 32) a x).toNat < S100000.size a := fun v492 k0_hw1285 => k0_hw1285
def k0_off1487 (k0_t122 : Fin k0_t122_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1286 (v499 : IVec S16 32) : Prop :=
  (∀ a x, ((![v499] : Fin 1 → IVec S16 32) a x).toNat < S100000.size a)
instance k0_chk1286.dec : ∀ (v499 : IVec S16 32), Decidable (k0_chk1286 v499) := fun v499 => decidable_of_iff' _ (Iff.of_eq (k0_chk1286.eq_1 v499))
theorem k0_idx1286_inb : ∀ (v499 : IVec S16 32) (k0_hw1286 : k0_chk1286 v499), ∀ a x, ((![v499] : Fin 1 → IVec S16 32) a x).toNat < S100000.size a := fun v499 k0_hw1286 => k0_hw1286
def k0_off1488 (k0_t122 : Fin k0_t122_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1287 (v506 : IVec S16 32) : Prop :=
  (∀ a x, ((![v506] : Fin 1 → IVec S16 32) a x).toNat < S100000.size a)
instance k0_chk1287.dec : ∀ (v506 : IVec S16 32), Decidable (k0_chk1287 v506) := fun v506 => decidable_of_iff' _ (Iff.of_eq (k0_chk1287.eq_1 v506))
theorem k0_idx1287_inb : ∀ (v506 : IVec S16 32) (k0_hw1287 : k0_chk1287 v506), ∀ a x, ((![v506] : Fin 1 → IVec S16 32) a x).toNat < S100000.size a := fun v506 k0_hw1287 => k0_hw1287
def k0_off1489 (k0_t122 : Fin k0_t122_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1288 (v513 : IVec S16 32) : Prop :=
  (∀ a x, ((![v513] : Fin 1 → IVec S16 32) a x).toNat < S100000.size a)
instance k0_chk1288.dec : ∀ (v513 : IVec S16 32), Decidable (k0_chk1288 v513) := fun v513 => decidable_of_iff' _ (Iff.of_eq (k0_chk1288.eq_1 v513))
theorem k0_idx1288_inb : ∀ (v513 : IVec S16 32) (k0_hw1288 : k0_chk1288 v513), ∀ a x, ((![v513] : Fin 1 → IVec S16 32) a x).toNat < S100000.size a := fun v513 k0_hw1288 => k0_hw1288
def k0_off1490 (k0_t122 : Fin k0_t122_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1289 (v520 : IVec S16 32) : Prop :=
  (∀ a x, ((![v520] : Fin 1 → IVec S16 32) a x).toNat < S100000.size a)
instance k0_chk1289.dec : ∀ (v520 : IVec S16 32), Decidable (k0_chk1289 v520) := fun v520 => decidable_of_iff' _ (Iff.of_eq (k0_chk1289.eq_1 v520))
theorem k0_idx1289_inb : ∀ (v520 : IVec S16 32) (k0_hw1289 : k0_chk1289 v520), ∀ a x, ((![v520] : Fin 1 → IVec S16 32) a x).toNat < S100000.size a := fun v520 k0_hw1289 => k0_hw1289
def k0_off1491 (k0_t122 : Fin k0_t122_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1290 (v527 : IVec S16 32) : Prop :=
  (∀ a x, ((![v527] : Fin 1 → IVec S16 32) a x).toNat < S100000.size a)
instance k0_chk1290.dec : ∀ (v527 : IVec S16 32), Decidable (k0_chk1290 v527) := fun v527 => decidable_of_iff' _ (Iff.of_eq (k0_chk1290.eq_1 v527))
theorem k0_idx1290_inb : ∀ (v527 : IVec S16 32) (k0_hw1290 : k0_chk1290 v527), ∀ a x, ((![v527] : Fin 1 → IVec S16 32) a x).toNat < S100000.size a := fun v527 k0_hw1290 => k0_hw1290
def k0_off1492 (k0_t122 : Fin k0_t122_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1291 (v534 : IVec S16 32) : Prop :=
  (∀ a x, ((![v534] : Fin 1 → IVec S16 32) a x).toNat < S100000.size a)
instance k0_chk1291.dec : ∀ (v534 : IVec S16 32), Decidable (k0_chk1291 v534) := fun v534 => decidable_of_iff' _ (Iff.of_eq (k0_chk1291.eq_1 v534))
theorem k0_idx1291_inb : ∀ (v534 : IVec S16 32) (k0_hw1291 : k0_chk1291 v534), ∀ a x, ((![v534] : Fin 1 → IVec S16 32) a x).toNat < S100000.size a := fun v534 k0_hw1291 => k0_hw1291
def k0_off1493 (k0_t122 : Fin k0_t122_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1292 (v541 : IVec S16 32) : Prop :=
  (∀ a x, ((![v541] : Fin 1 → IVec S16 32) a x).toNat < S100000.size a)
instance k0_chk1292.dec : ∀ (v541 : IVec S16 32), Decidable (k0_chk1292 v541) := fun v541 => decidable_of_iff' _ (Iff.of_eq (k0_chk1292.eq_1 v541))
theorem k0_idx1292_inb : ∀ (v541 : IVec S16 32) (k0_hw1292 : k0_chk1292 v541), ∀ a x, ((![v541] : Fin 1 → IVec S16 32) a x).toNat < S100000.size a := fun v541 k0_hw1292 => k0_hw1292
def k0_off1494 (k0_t122 : Fin k0_t122_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1293 (v548 : IVec S16 32) : Prop :=
  (∀ a x, ((![v548] : Fin 1 → IVec S16 32) a x).toNat < S100000.size a)
instance k0_chk1293.dec : ∀ (v548 : IVec S16 32), Decidable (k0_chk1293 v548) := fun v548 => decidable_of_iff' _ (Iff.of_eq (k0_chk1293.eq_1 v548))
theorem k0_idx1293_inb : ∀ (v548 : IVec S16 32) (k0_hw1293 : k0_chk1293 v548), ∀ a x, ((![v548] : Fin 1 → IVec S16 32) a x).toNat < S100000.size a := fun v548 k0_hw1293 => k0_hw1293
def k0_off1495 (k0_t122 : Fin k0_t122_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1294 (v555 : IVec S16 32) : Prop :=
  (∀ a x, ((![v555] : Fin 1 → IVec S16 32) a x).toNat < S100000.size a)
instance k0_chk1294.dec : ∀ (v555 : IVec S16 32), Decidable (k0_chk1294 v555) := fun v555 => decidable_of_iff' _ (Iff.of_eq (k0_chk1294.eq_1 v555))
theorem k0_idx1294_inb : ∀ (v555 : IVec S16 32) (k0_hw1294 : k0_chk1294 v555), ∀ a x, ((![v555] : Fin 1 → IVec S16 32) a x).toNat < S100000.size a := fun v555 k0_hw1294 => k0_hw1294
def k0_off1496 (k0_t122 : Fin k0_t122_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1295 (v562 : IVec S16 32) : Prop :=
  (∀ a x, ((![v562] : Fin 1 → IVec S16 32) a x).toNat < S100000.size a)
instance k0_chk1295.dec : ∀ (v562 : IVec S16 32), Decidable (k0_chk1295 v562) := fun v562 => decidable_of_iff' _ (Iff.of_eq (k0_chk1295.eq_1 v562))
theorem k0_idx1295_inb : ∀ (v562 : IVec S16 32) (k0_hw1295 : k0_chk1295 v562), ∀ a x, ((![v562] : Fin 1 → IVec S16 32) a x).toNat < S100000.size a := fun v562 k0_hw1295 => k0_hw1295
def k0_off1497 (k0_t122 : Fin k0_t122_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1296 (v569 : IVec S16 32) : Prop :=
  (∀ a x, ((![v569] : Fin 1 → IVec S16 32) a x).toNat < S100000.size a)
instance k0_chk1296.dec : ∀ (v569 : IVec S16 32), Decidable (k0_chk1296 v569) := fun v569 => decidable_of_iff' _ (Iff.of_eq (k0_chk1296.eq_1 v569))
theorem k0_idx1296_inb : ∀ (v569 : IVec S16 32) (k0_hw1296 : k0_chk1296 v569), ∀ a x, ((![v569] : Fin 1 → IVec S16 32) a x).toNat < S100000.size a := fun v569 k0_hw1296 => k0_hw1296
def k0_off1498 (k0_t122 : Fin k0_t122_loop.trips) : Fin 1 → Nat :=
  let c0_i32_275 : BitVec 32 := 0#32
  let c1_i32_277 : BitVec 32 := 1#32
  let arg36 : BitVec 32 := Scf.iv c0_i32_275 c1_i32_277 k0_t122
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1499 (i : grid0.Coords) (k0_t121 : Fin (k0_t121_loop i).trips) : Fin 2 → Nat :=
  let c720_i32_279 : BitVec 32 := 720#32
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c1_i32_222 : BitVec 32 := 1#32
  let arg34 : BitVec 32 := Scf.iv v361 c1_i32_222 k0_t121
  let v457 : BitVec 32 := Scalar.addi c720_i32_279 arg34
  let c0_i32_287_r163 : BitVec 32 := 0#32
  ![v457.toNat, 0]
@[reducible] def k0_t123_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1500 (k0_t123 : Fin k0_t123_loop.trips) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1297 (v464 : IVec S16 32) : Prop :=
  (∀ a x, ((![v464] : Fin 1 → IVec S16 32) a x).toNat < S100000.size a)
instance k0_chk1297.dec : ∀ (v464 : IVec S16 32), Decidable (k0_chk1297 v464) := fun v464 => decidable_of_iff' _ (Iff.of_eq (k0_chk1297.eq_1 v464))
theorem k0_idx1297_inb : ∀ (v464 : IVec S16 32) (k0_hw1297 : k0_chk1297 v464), ∀ a x, ((![v464] : Fin 1 → IVec S16 32) a x).toNat < S100000.size a := fun v464 k0_hw1297 => k0_hw1297
def k0_off1501 (k0_t123 : Fin k0_t123_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1298 (v471 : IVec S16 32) : Prop :=
  (∀ a x, ((![v471] : Fin 1 → IVec S16 32) a x).toNat < S100000.size a)
instance k0_chk1298.dec : ∀ (v471 : IVec S16 32), Decidable (k0_chk1298 v471) := fun v471 => decidable_of_iff' _ (Iff.of_eq (k0_chk1298.eq_1 v471))
theorem k0_idx1298_inb : ∀ (v471 : IVec S16 32) (k0_hw1298 : k0_chk1298 v471), ∀ a x, ((![v471] : Fin 1 → IVec S16 32) a x).toNat < S100000.size a := fun v471 k0_hw1298 => k0_hw1298
def k0_off1502 (k0_t123 : Fin k0_t123_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1299 (v478 : IVec S16 32) : Prop :=
  (∀ a x, ((![v478] : Fin 1 → IVec S16 32) a x).toNat < S100000.size a)
instance k0_chk1299.dec : ∀ (v478 : IVec S16 32), Decidable (k0_chk1299 v478) := fun v478 => decidable_of_iff' _ (Iff.of_eq (k0_chk1299.eq_1 v478))
theorem k0_idx1299_inb : ∀ (v478 : IVec S16 32) (k0_hw1299 : k0_chk1299 v478), ∀ a x, ((![v478] : Fin 1 → IVec S16 32) a x).toNat < S100000.size a := fun v478 k0_hw1299 => k0_hw1299
def k0_off1503 (k0_t123 : Fin k0_t123_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1300 (v485 : IVec S16 32) : Prop :=
  (∀ a x, ((![v485] : Fin 1 → IVec S16 32) a x).toNat < S100000.size a)
instance k0_chk1300.dec : ∀ (v485 : IVec S16 32), Decidable (k0_chk1300 v485) := fun v485 => decidable_of_iff' _ (Iff.of_eq (k0_chk1300.eq_1 v485))
theorem k0_idx1300_inb : ∀ (v485 : IVec S16 32) (k0_hw1300 : k0_chk1300 v485), ∀ a x, ((![v485] : Fin 1 → IVec S16 32) a x).toNat < S100000.size a := fun v485 k0_hw1300 => k0_hw1300
def k0_off1504 (k0_t123 : Fin k0_t123_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1301 (v492 : IVec S16 32) : Prop :=
  (∀ a x, ((![v492] : Fin 1 → IVec S16 32) a x).toNat < S100000.size a)
instance k0_chk1301.dec : ∀ (v492 : IVec S16 32), Decidable (k0_chk1301 v492) := fun v492 => decidable_of_iff' _ (Iff.of_eq (k0_chk1301.eq_1 v492))
theorem k0_idx1301_inb : ∀ (v492 : IVec S16 32) (k0_hw1301 : k0_chk1301 v492), ∀ a x, ((![v492] : Fin 1 → IVec S16 32) a x).toNat < S100000.size a := fun v492 k0_hw1301 => k0_hw1301
def k0_off1505 (k0_t123 : Fin k0_t123_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1302 (v499 : IVec S16 32) : Prop :=
  (∀ a x, ((![v499] : Fin 1 → IVec S16 32) a x).toNat < S100000.size a)
instance k0_chk1302.dec : ∀ (v499 : IVec S16 32), Decidable (k0_chk1302 v499) := fun v499 => decidable_of_iff' _ (Iff.of_eq (k0_chk1302.eq_1 v499))
theorem k0_idx1302_inb : ∀ (v499 : IVec S16 32) (k0_hw1302 : k0_chk1302 v499), ∀ a x, ((![v499] : Fin 1 → IVec S16 32) a x).toNat < S100000.size a := fun v499 k0_hw1302 => k0_hw1302
def k0_off1506 (k0_t123 : Fin k0_t123_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1303 (v506 : IVec S16 32) : Prop :=
  (∀ a x, ((![v506] : Fin 1 → IVec S16 32) a x).toNat < S100000.size a)
instance k0_chk1303.dec : ∀ (v506 : IVec S16 32), Decidable (k0_chk1303 v506) := fun v506 => decidable_of_iff' _ (Iff.of_eq (k0_chk1303.eq_1 v506))
theorem k0_idx1303_inb : ∀ (v506 : IVec S16 32) (k0_hw1303 : k0_chk1303 v506), ∀ a x, ((![v506] : Fin 1 → IVec S16 32) a x).toNat < S100000.size a := fun v506 k0_hw1303 => k0_hw1303
def k0_off1507 (k0_t123 : Fin k0_t123_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1304 (v513 : IVec S16 32) : Prop :=
  (∀ a x, ((![v513] : Fin 1 → IVec S16 32) a x).toNat < S100000.size a)
instance k0_chk1304.dec : ∀ (v513 : IVec S16 32), Decidable (k0_chk1304 v513) := fun v513 => decidable_of_iff' _ (Iff.of_eq (k0_chk1304.eq_1 v513))
theorem k0_idx1304_inb : ∀ (v513 : IVec S16 32) (k0_hw1304 : k0_chk1304 v513), ∀ a x, ((![v513] : Fin 1 → IVec S16 32) a x).toNat < S100000.size a := fun v513 k0_hw1304 => k0_hw1304
def k0_off1508 (k0_t123 : Fin k0_t123_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1305 (v520 : IVec S16 32) : Prop :=
  (∀ a x, ((![v520] : Fin 1 → IVec S16 32) a x).toNat < S100000.size a)
instance k0_chk1305.dec : ∀ (v520 : IVec S16 32), Decidable (k0_chk1305 v520) := fun v520 => decidable_of_iff' _ (Iff.of_eq (k0_chk1305.eq_1 v520))
theorem k0_idx1305_inb : ∀ (v520 : IVec S16 32) (k0_hw1305 : k0_chk1305 v520), ∀ a x, ((![v520] : Fin 1 → IVec S16 32) a x).toNat < S100000.size a := fun v520 k0_hw1305 => k0_hw1305
def k0_off1509 (k0_t123 : Fin k0_t123_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1306 (v527 : IVec S16 32) : Prop :=
  (∀ a x, ((![v527] : Fin 1 → IVec S16 32) a x).toNat < S100000.size a)
instance k0_chk1306.dec : ∀ (v527 : IVec S16 32), Decidable (k0_chk1306 v527) := fun v527 => decidable_of_iff' _ (Iff.of_eq (k0_chk1306.eq_1 v527))
theorem k0_idx1306_inb : ∀ (v527 : IVec S16 32) (k0_hw1306 : k0_chk1306 v527), ∀ a x, ((![v527] : Fin 1 → IVec S16 32) a x).toNat < S100000.size a := fun v527 k0_hw1306 => k0_hw1306
def k0_off1510 (k0_t123 : Fin k0_t123_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1307 (v534 : IVec S16 32) : Prop :=
  (∀ a x, ((![v534] : Fin 1 → IVec S16 32) a x).toNat < S100000.size a)
instance k0_chk1307.dec : ∀ (v534 : IVec S16 32), Decidable (k0_chk1307 v534) := fun v534 => decidable_of_iff' _ (Iff.of_eq (k0_chk1307.eq_1 v534))
theorem k0_idx1307_inb : ∀ (v534 : IVec S16 32) (k0_hw1307 : k0_chk1307 v534), ∀ a x, ((![v534] : Fin 1 → IVec S16 32) a x).toNat < S100000.size a := fun v534 k0_hw1307 => k0_hw1307
def k0_off1511 (k0_t123 : Fin k0_t123_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1308 (v541 : IVec S16 32) : Prop :=
  (∀ a x, ((![v541] : Fin 1 → IVec S16 32) a x).toNat < S100000.size a)
instance k0_chk1308.dec : ∀ (v541 : IVec S16 32), Decidable (k0_chk1308 v541) := fun v541 => decidable_of_iff' _ (Iff.of_eq (k0_chk1308.eq_1 v541))
theorem k0_idx1308_inb : ∀ (v541 : IVec S16 32) (k0_hw1308 : k0_chk1308 v541), ∀ a x, ((![v541] : Fin 1 → IVec S16 32) a x).toNat < S100000.size a := fun v541 k0_hw1308 => k0_hw1308
def k0_off1512 (k0_t123 : Fin k0_t123_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1309 (v548 : IVec S16 32) : Prop :=
  (∀ a x, ((![v548] : Fin 1 → IVec S16 32) a x).toNat < S100000.size a)
instance k0_chk1309.dec : ∀ (v548 : IVec S16 32), Decidable (k0_chk1309 v548) := fun v548 => decidable_of_iff' _ (Iff.of_eq (k0_chk1309.eq_1 v548))
theorem k0_idx1309_inb : ∀ (v548 : IVec S16 32) (k0_hw1309 : k0_chk1309 v548), ∀ a x, ((![v548] : Fin 1 → IVec S16 32) a x).toNat < S100000.size a := fun v548 k0_hw1309 => k0_hw1309
def k0_off1513 (k0_t123 : Fin k0_t123_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1310 (v555 : IVec S16 32) : Prop :=
  (∀ a x, ((![v555] : Fin 1 → IVec S16 32) a x).toNat < S100000.size a)
instance k0_chk1310.dec : ∀ (v555 : IVec S16 32), Decidable (k0_chk1310 v555) := fun v555 => decidable_of_iff' _ (Iff.of_eq (k0_chk1310.eq_1 v555))
theorem k0_idx1310_inb : ∀ (v555 : IVec S16 32) (k0_hw1310 : k0_chk1310 v555), ∀ a x, ((![v555] : Fin 1 → IVec S16 32) a x).toNat < S100000.size a := fun v555 k0_hw1310 => k0_hw1310
def k0_off1514 (k0_t123 : Fin k0_t123_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1311 (v562 : IVec S16 32) : Prop :=
  (∀ a x, ((![v562] : Fin 1 → IVec S16 32) a x).toNat < S100000.size a)
instance k0_chk1311.dec : ∀ (v562 : IVec S16 32), Decidable (k0_chk1311 v562) := fun v562 => decidable_of_iff' _ (Iff.of_eq (k0_chk1311.eq_1 v562))
theorem k0_idx1311_inb : ∀ (v562 : IVec S16 32) (k0_hw1311 : k0_chk1311 v562), ∀ a x, ((![v562] : Fin 1 → IVec S16 32) a x).toNat < S100000.size a := fun v562 k0_hw1311 => k0_hw1311
def k0_off1515 (k0_t123 : Fin k0_t123_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1312 (v569 : IVec S16 32) : Prop :=
  (∀ a x, ((![v569] : Fin 1 → IVec S16 32) a x).toNat < S100000.size a)
instance k0_chk1312.dec : ∀ (v569 : IVec S16 32), Decidable (k0_chk1312 v569) := fun v569 => decidable_of_iff' _ (Iff.of_eq (k0_chk1312.eq_1 v569))
theorem k0_idx1312_inb : ∀ (v569 : IVec S16 32) (k0_hw1312 : k0_chk1312 v569), ∀ a x, ((![v569] : Fin 1 → IVec S16 32) a x).toNat < S100000.size a := fun v569 k0_hw1312 => k0_hw1312
def k0_off1516 (k0_t123 : Fin k0_t123_loop.trips) : Fin 1 → Nat :=
  let c0_i32_281 : BitVec 32 := 0#32
  let c1_i32_283 : BitVec 32 := 1#32
  let arg36 : BitVec 32 := Scf.iv c0_i32_281 c1_i32_283 k0_t123
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1517 (i : grid0.Coords) (k0_t121 : Fin (k0_t121_loop i).trips) : Fin 2 → Nat :=
  let c720_i32_285 : BitVec 32 := 720#32
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c1_i32_222 : BitVec 32 := 1#32
  let arg34 : BitVec 32 := Scf.iv v361 c1_i32_222 k0_t121
  let v460 : BitVec 32 := Scalar.addi c720_i32_285 arg34
  let c8192_i32_r164 : BitVec 32 := 8192#32
  ![v460.toNat, 8192]
@[reducible] def k0_t124_loop (i : grid0.Coords) : Scf.Loop 32 :=
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c36_i32_218 : BitVec 32 := 36#32
  let c0_i32_217 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c720_i32_216 : BitVec 32 := 720#32
  let v362 : BitVec 32 := Scalar.subi v38 c720_i32_216
  let v363 : BitVec 32 := Scalar.maxsi c0_i32_217 v362
  let v364 : BitVec 32 := Scalar.minsi c36_i32_218 v363
  let v368 : BitVec 32 := Scalar.subi v364 v361
  let c1_i32_221 : BitVec 32 := 1#32
  let v370 : BitVec 32 := Scalar.divsi v368 c1_i32_221
  let v371 : BitVec 32 := Scalar.muli v370 c1_i32_221
  let v372 : BitVec 32 := Scalar.addi v361 v371
  let v369 : BitVec 32 := Scalar.addi v361 v368
  let c1_i32_223 : BitVec 32 := 1#32
  ⟨v372, v369, c1_i32_223⟩
def k0_off1518 (i : grid0.Coords) (k0_t124 : Fin (k0_t124_loop i).trips) : Fin 2 → Nat :=
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c36_i32_218 : BitVec 32 := 36#32
  let c0_i32_217 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c720_i32_216 : BitVec 32 := 720#32
  let v362 : BitVec 32 := Scalar.subi v38 c720_i32_216
  let v363 : BitVec 32 := Scalar.maxsi c0_i32_217 v362
  let v364 : BitVec 32 := Scalar.minsi c36_i32_218 v363
  let v368 : BitVec 32 := Scalar.subi v364 v361
  let c1_i32_221 : BitVec 32 := 1#32
  let v370 : BitVec 32 := Scalar.divsi v368 c1_i32_221
  let v371 : BitVec 32 := Scalar.muli v370 c1_i32_221
  let v372 : BitVec 32 := Scalar.addi v361 v371
  let c1_i32_223 : BitVec 32 := 1#32
  let arg34 : BitVec 32 := Scf.iv v372 c1_i32_223 k0_t124
  let c0_i32_287_r165 : BitVec 32 := 0#32
  ![arg34.toNat, 0]
@[reducible] def k0_t125_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1519 (k0_t125 : Fin k0_t125_loop.trips) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1313 (v464 : IVec S16 32) : Prop :=
  (∀ a x, ((![v464] : Fin 1 → IVec S16 32) a x).toNat < S100000.size a)
instance k0_chk1313.dec : ∀ (v464 : IVec S16 32), Decidable (k0_chk1313 v464) := fun v464 => decidable_of_iff' _ (Iff.of_eq (k0_chk1313.eq_1 v464))
theorem k0_idx1313_inb : ∀ (v464 : IVec S16 32) (k0_hw1313 : k0_chk1313 v464), ∀ a x, ((![v464] : Fin 1 → IVec S16 32) a x).toNat < S100000.size a := fun v464 k0_hw1313 => k0_hw1313
def k0_off1520 (k0_t125 : Fin k0_t125_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1314 (v471 : IVec S16 32) : Prop :=
  (∀ a x, ((![v471] : Fin 1 → IVec S16 32) a x).toNat < S100000.size a)
instance k0_chk1314.dec : ∀ (v471 : IVec S16 32), Decidable (k0_chk1314 v471) := fun v471 => decidable_of_iff' _ (Iff.of_eq (k0_chk1314.eq_1 v471))
theorem k0_idx1314_inb : ∀ (v471 : IVec S16 32) (k0_hw1314 : k0_chk1314 v471), ∀ a x, ((![v471] : Fin 1 → IVec S16 32) a x).toNat < S100000.size a := fun v471 k0_hw1314 => k0_hw1314
def k0_off1521 (k0_t125 : Fin k0_t125_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1315 (v478 : IVec S16 32) : Prop :=
  (∀ a x, ((![v478] : Fin 1 → IVec S16 32) a x).toNat < S100000.size a)
instance k0_chk1315.dec : ∀ (v478 : IVec S16 32), Decidable (k0_chk1315 v478) := fun v478 => decidable_of_iff' _ (Iff.of_eq (k0_chk1315.eq_1 v478))
theorem k0_idx1315_inb : ∀ (v478 : IVec S16 32) (k0_hw1315 : k0_chk1315 v478), ∀ a x, ((![v478] : Fin 1 → IVec S16 32) a x).toNat < S100000.size a := fun v478 k0_hw1315 => k0_hw1315
def k0_off1522 (k0_t125 : Fin k0_t125_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1316 (v485 : IVec S16 32) : Prop :=
  (∀ a x, ((![v485] : Fin 1 → IVec S16 32) a x).toNat < S100000.size a)
instance k0_chk1316.dec : ∀ (v485 : IVec S16 32), Decidable (k0_chk1316 v485) := fun v485 => decidable_of_iff' _ (Iff.of_eq (k0_chk1316.eq_1 v485))
theorem k0_idx1316_inb : ∀ (v485 : IVec S16 32) (k0_hw1316 : k0_chk1316 v485), ∀ a x, ((![v485] : Fin 1 → IVec S16 32) a x).toNat < S100000.size a := fun v485 k0_hw1316 => k0_hw1316
def k0_off1523 (k0_t125 : Fin k0_t125_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1317 (v492 : IVec S16 32) : Prop :=
  (∀ a x, ((![v492] : Fin 1 → IVec S16 32) a x).toNat < S100000.size a)
instance k0_chk1317.dec : ∀ (v492 : IVec S16 32), Decidable (k0_chk1317 v492) := fun v492 => decidable_of_iff' _ (Iff.of_eq (k0_chk1317.eq_1 v492))
theorem k0_idx1317_inb : ∀ (v492 : IVec S16 32) (k0_hw1317 : k0_chk1317 v492), ∀ a x, ((![v492] : Fin 1 → IVec S16 32) a x).toNat < S100000.size a := fun v492 k0_hw1317 => k0_hw1317
def k0_off1524 (k0_t125 : Fin k0_t125_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1318 (v499 : IVec S16 32) : Prop :=
  (∀ a x, ((![v499] : Fin 1 → IVec S16 32) a x).toNat < S100000.size a)
instance k0_chk1318.dec : ∀ (v499 : IVec S16 32), Decidable (k0_chk1318 v499) := fun v499 => decidable_of_iff' _ (Iff.of_eq (k0_chk1318.eq_1 v499))
theorem k0_idx1318_inb : ∀ (v499 : IVec S16 32) (k0_hw1318 : k0_chk1318 v499), ∀ a x, ((![v499] : Fin 1 → IVec S16 32) a x).toNat < S100000.size a := fun v499 k0_hw1318 => k0_hw1318
def k0_off1525 (k0_t125 : Fin k0_t125_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1319 (v506 : IVec S16 32) : Prop :=
  (∀ a x, ((![v506] : Fin 1 → IVec S16 32) a x).toNat < S100000.size a)
instance k0_chk1319.dec : ∀ (v506 : IVec S16 32), Decidable (k0_chk1319 v506) := fun v506 => decidable_of_iff' _ (Iff.of_eq (k0_chk1319.eq_1 v506))
theorem k0_idx1319_inb : ∀ (v506 : IVec S16 32) (k0_hw1319 : k0_chk1319 v506), ∀ a x, ((![v506] : Fin 1 → IVec S16 32) a x).toNat < S100000.size a := fun v506 k0_hw1319 => k0_hw1319
def k0_off1526 (k0_t125 : Fin k0_t125_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1320 (v513 : IVec S16 32) : Prop :=
  (∀ a x, ((![v513] : Fin 1 → IVec S16 32) a x).toNat < S100000.size a)
instance k0_chk1320.dec : ∀ (v513 : IVec S16 32), Decidable (k0_chk1320 v513) := fun v513 => decidable_of_iff' _ (Iff.of_eq (k0_chk1320.eq_1 v513))
theorem k0_idx1320_inb : ∀ (v513 : IVec S16 32) (k0_hw1320 : k0_chk1320 v513), ∀ a x, ((![v513] : Fin 1 → IVec S16 32) a x).toNat < S100000.size a := fun v513 k0_hw1320 => k0_hw1320
def k0_off1527 (k0_t125 : Fin k0_t125_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1321 (v520 : IVec S16 32) : Prop :=
  (∀ a x, ((![v520] : Fin 1 → IVec S16 32) a x).toNat < S100000.size a)
instance k0_chk1321.dec : ∀ (v520 : IVec S16 32), Decidable (k0_chk1321 v520) := fun v520 => decidable_of_iff' _ (Iff.of_eq (k0_chk1321.eq_1 v520))
theorem k0_idx1321_inb : ∀ (v520 : IVec S16 32) (k0_hw1321 : k0_chk1321 v520), ∀ a x, ((![v520] : Fin 1 → IVec S16 32) a x).toNat < S100000.size a := fun v520 k0_hw1321 => k0_hw1321
def k0_off1528 (k0_t125 : Fin k0_t125_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1322 (v527 : IVec S16 32) : Prop :=
  (∀ a x, ((![v527] : Fin 1 → IVec S16 32) a x).toNat < S100000.size a)
instance k0_chk1322.dec : ∀ (v527 : IVec S16 32), Decidable (k0_chk1322 v527) := fun v527 => decidable_of_iff' _ (Iff.of_eq (k0_chk1322.eq_1 v527))
theorem k0_idx1322_inb : ∀ (v527 : IVec S16 32) (k0_hw1322 : k0_chk1322 v527), ∀ a x, ((![v527] : Fin 1 → IVec S16 32) a x).toNat < S100000.size a := fun v527 k0_hw1322 => k0_hw1322
def k0_off1529 (k0_t125 : Fin k0_t125_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1323 (v534 : IVec S16 32) : Prop :=
  (∀ a x, ((![v534] : Fin 1 → IVec S16 32) a x).toNat < S100000.size a)
instance k0_chk1323.dec : ∀ (v534 : IVec S16 32), Decidable (k0_chk1323 v534) := fun v534 => decidable_of_iff' _ (Iff.of_eq (k0_chk1323.eq_1 v534))
theorem k0_idx1323_inb : ∀ (v534 : IVec S16 32) (k0_hw1323 : k0_chk1323 v534), ∀ a x, ((![v534] : Fin 1 → IVec S16 32) a x).toNat < S100000.size a := fun v534 k0_hw1323 => k0_hw1323
def k0_off1530 (k0_t125 : Fin k0_t125_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1324 (v541 : IVec S16 32) : Prop :=
  (∀ a x, ((![v541] : Fin 1 → IVec S16 32) a x).toNat < S100000.size a)
instance k0_chk1324.dec : ∀ (v541 : IVec S16 32), Decidable (k0_chk1324 v541) := fun v541 => decidable_of_iff' _ (Iff.of_eq (k0_chk1324.eq_1 v541))
theorem k0_idx1324_inb : ∀ (v541 : IVec S16 32) (k0_hw1324 : k0_chk1324 v541), ∀ a x, ((![v541] : Fin 1 → IVec S16 32) a x).toNat < S100000.size a := fun v541 k0_hw1324 => k0_hw1324
def k0_off1531 (k0_t125 : Fin k0_t125_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1325 (v548 : IVec S16 32) : Prop :=
  (∀ a x, ((![v548] : Fin 1 → IVec S16 32) a x).toNat < S100000.size a)
instance k0_chk1325.dec : ∀ (v548 : IVec S16 32), Decidable (k0_chk1325 v548) := fun v548 => decidable_of_iff' _ (Iff.of_eq (k0_chk1325.eq_1 v548))
theorem k0_idx1325_inb : ∀ (v548 : IVec S16 32) (k0_hw1325 : k0_chk1325 v548), ∀ a x, ((![v548] : Fin 1 → IVec S16 32) a x).toNat < S100000.size a := fun v548 k0_hw1325 => k0_hw1325
def k0_off1532 (k0_t125 : Fin k0_t125_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1326 (v555 : IVec S16 32) : Prop :=
  (∀ a x, ((![v555] : Fin 1 → IVec S16 32) a x).toNat < S100000.size a)
instance k0_chk1326.dec : ∀ (v555 : IVec S16 32), Decidable (k0_chk1326 v555) := fun v555 => decidable_of_iff' _ (Iff.of_eq (k0_chk1326.eq_1 v555))
theorem k0_idx1326_inb : ∀ (v555 : IVec S16 32) (k0_hw1326 : k0_chk1326 v555), ∀ a x, ((![v555] : Fin 1 → IVec S16 32) a x).toNat < S100000.size a := fun v555 k0_hw1326 => k0_hw1326
def k0_off1533 (k0_t125 : Fin k0_t125_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1327 (v562 : IVec S16 32) : Prop :=
  (∀ a x, ((![v562] : Fin 1 → IVec S16 32) a x).toNat < S100000.size a)
instance k0_chk1327.dec : ∀ (v562 : IVec S16 32), Decidable (k0_chk1327 v562) := fun v562 => decidable_of_iff' _ (Iff.of_eq (k0_chk1327.eq_1 v562))
theorem k0_idx1327_inb : ∀ (v562 : IVec S16 32) (k0_hw1327 : k0_chk1327 v562), ∀ a x, ((![v562] : Fin 1 → IVec S16 32) a x).toNat < S100000.size a := fun v562 k0_hw1327 => k0_hw1327
def k0_off1534 (k0_t125 : Fin k0_t125_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1328 (v569 : IVec S16 32) : Prop :=
  (∀ a x, ((![v569] : Fin 1 → IVec S16 32) a x).toNat < S100000.size a)
instance k0_chk1328.dec : ∀ (v569 : IVec S16 32), Decidable (k0_chk1328 v569) := fun v569 => decidable_of_iff' _ (Iff.of_eq (k0_chk1328.eq_1 v569))
theorem k0_idx1328_inb : ∀ (v569 : IVec S16 32) (k0_hw1328 : k0_chk1328 v569), ∀ a x, ((![v569] : Fin 1 → IVec S16 32) a x).toNat < S100000.size a := fun v569 k0_hw1328 => k0_hw1328
def k0_off1535 (k0_t125 : Fin k0_t125_loop.trips) : Fin 1 → Nat :=
  let c0_i32_275 : BitVec 32 := 0#32
  let c1_i32_277 : BitVec 32 := 1#32
  let arg36 : BitVec 32 := Scf.iv c0_i32_275 c1_i32_277 k0_t125
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1536 (i : grid0.Coords) (k0_t124 : Fin (k0_t124_loop i).trips) : Fin 2 → Nat :=
  let c720_i32_279 : BitVec 32 := 720#32
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c36_i32_218 : BitVec 32 := 36#32
  let c0_i32_217 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c720_i32_216 : BitVec 32 := 720#32
  let v362 : BitVec 32 := Scalar.subi v38 c720_i32_216
  let v363 : BitVec 32 := Scalar.maxsi c0_i32_217 v362
  let v364 : BitVec 32 := Scalar.minsi c36_i32_218 v363
  let v368 : BitVec 32 := Scalar.subi v364 v361
  let c1_i32_221 : BitVec 32 := 1#32
  let v370 : BitVec 32 := Scalar.divsi v368 c1_i32_221
  let v371 : BitVec 32 := Scalar.muli v370 c1_i32_221
  let v372 : BitVec 32 := Scalar.addi v361 v371
  let c1_i32_223 : BitVec 32 := 1#32
  let arg34 : BitVec 32 := Scf.iv v372 c1_i32_223 k0_t124
  let v457 : BitVec 32 := Scalar.addi c720_i32_279 arg34
  let c0_i32_287_r166 : BitVec 32 := 0#32
  ![v457.toNat, 0]
@[reducible] def k0_t126_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1537 (k0_t126 : Fin k0_t126_loop.trips) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1329 (v464 : IVec S16 32) : Prop :=
  (∀ a x, ((![v464] : Fin 1 → IVec S16 32) a x).toNat < S100000.size a)
instance k0_chk1329.dec : ∀ (v464 : IVec S16 32), Decidable (k0_chk1329 v464) := fun v464 => decidable_of_iff' _ (Iff.of_eq (k0_chk1329.eq_1 v464))
theorem k0_idx1329_inb : ∀ (v464 : IVec S16 32) (k0_hw1329 : k0_chk1329 v464), ∀ a x, ((![v464] : Fin 1 → IVec S16 32) a x).toNat < S100000.size a := fun v464 k0_hw1329 => k0_hw1329
def k0_off1538 (k0_t126 : Fin k0_t126_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1330 (v471 : IVec S16 32) : Prop :=
  (∀ a x, ((![v471] : Fin 1 → IVec S16 32) a x).toNat < S100000.size a)
instance k0_chk1330.dec : ∀ (v471 : IVec S16 32), Decidable (k0_chk1330 v471) := fun v471 => decidable_of_iff' _ (Iff.of_eq (k0_chk1330.eq_1 v471))
theorem k0_idx1330_inb : ∀ (v471 : IVec S16 32) (k0_hw1330 : k0_chk1330 v471), ∀ a x, ((![v471] : Fin 1 → IVec S16 32) a x).toNat < S100000.size a := fun v471 k0_hw1330 => k0_hw1330
def k0_off1539 (k0_t126 : Fin k0_t126_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1331 (v478 : IVec S16 32) : Prop :=
  (∀ a x, ((![v478] : Fin 1 → IVec S16 32) a x).toNat < S100000.size a)
instance k0_chk1331.dec : ∀ (v478 : IVec S16 32), Decidable (k0_chk1331 v478) := fun v478 => decidable_of_iff' _ (Iff.of_eq (k0_chk1331.eq_1 v478))
theorem k0_idx1331_inb : ∀ (v478 : IVec S16 32) (k0_hw1331 : k0_chk1331 v478), ∀ a x, ((![v478] : Fin 1 → IVec S16 32) a x).toNat < S100000.size a := fun v478 k0_hw1331 => k0_hw1331
def k0_off1540 (k0_t126 : Fin k0_t126_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1332 (v485 : IVec S16 32) : Prop :=
  (∀ a x, ((![v485] : Fin 1 → IVec S16 32) a x).toNat < S100000.size a)
instance k0_chk1332.dec : ∀ (v485 : IVec S16 32), Decidable (k0_chk1332 v485) := fun v485 => decidable_of_iff' _ (Iff.of_eq (k0_chk1332.eq_1 v485))
theorem k0_idx1332_inb : ∀ (v485 : IVec S16 32) (k0_hw1332 : k0_chk1332 v485), ∀ a x, ((![v485] : Fin 1 → IVec S16 32) a x).toNat < S100000.size a := fun v485 k0_hw1332 => k0_hw1332
def k0_off1541 (k0_t126 : Fin k0_t126_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1333 (v492 : IVec S16 32) : Prop :=
  (∀ a x, ((![v492] : Fin 1 → IVec S16 32) a x).toNat < S100000.size a)
instance k0_chk1333.dec : ∀ (v492 : IVec S16 32), Decidable (k0_chk1333 v492) := fun v492 => decidable_of_iff' _ (Iff.of_eq (k0_chk1333.eq_1 v492))
theorem k0_idx1333_inb : ∀ (v492 : IVec S16 32) (k0_hw1333 : k0_chk1333 v492), ∀ a x, ((![v492] : Fin 1 → IVec S16 32) a x).toNat < S100000.size a := fun v492 k0_hw1333 => k0_hw1333
def k0_off1542 (k0_t126 : Fin k0_t126_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1334 (v499 : IVec S16 32) : Prop :=
  (∀ a x, ((![v499] : Fin 1 → IVec S16 32) a x).toNat < S100000.size a)
instance k0_chk1334.dec : ∀ (v499 : IVec S16 32), Decidable (k0_chk1334 v499) := fun v499 => decidable_of_iff' _ (Iff.of_eq (k0_chk1334.eq_1 v499))
theorem k0_idx1334_inb : ∀ (v499 : IVec S16 32) (k0_hw1334 : k0_chk1334 v499), ∀ a x, ((![v499] : Fin 1 → IVec S16 32) a x).toNat < S100000.size a := fun v499 k0_hw1334 => k0_hw1334
def k0_off1543 (k0_t126 : Fin k0_t126_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1335 (v506 : IVec S16 32) : Prop :=
  (∀ a x, ((![v506] : Fin 1 → IVec S16 32) a x).toNat < S100000.size a)
instance k0_chk1335.dec : ∀ (v506 : IVec S16 32), Decidable (k0_chk1335 v506) := fun v506 => decidable_of_iff' _ (Iff.of_eq (k0_chk1335.eq_1 v506))
theorem k0_idx1335_inb : ∀ (v506 : IVec S16 32) (k0_hw1335 : k0_chk1335 v506), ∀ a x, ((![v506] : Fin 1 → IVec S16 32) a x).toNat < S100000.size a := fun v506 k0_hw1335 => k0_hw1335
def k0_off1544 (k0_t126 : Fin k0_t126_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1336 (v513 : IVec S16 32) : Prop :=
  (∀ a x, ((![v513] : Fin 1 → IVec S16 32) a x).toNat < S100000.size a)
instance k0_chk1336.dec : ∀ (v513 : IVec S16 32), Decidable (k0_chk1336 v513) := fun v513 => decidable_of_iff' _ (Iff.of_eq (k0_chk1336.eq_1 v513))
theorem k0_idx1336_inb : ∀ (v513 : IVec S16 32) (k0_hw1336 : k0_chk1336 v513), ∀ a x, ((![v513] : Fin 1 → IVec S16 32) a x).toNat < S100000.size a := fun v513 k0_hw1336 => k0_hw1336
def k0_off1545 (k0_t126 : Fin k0_t126_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1337 (v520 : IVec S16 32) : Prop :=
  (∀ a x, ((![v520] : Fin 1 → IVec S16 32) a x).toNat < S100000.size a)
instance k0_chk1337.dec : ∀ (v520 : IVec S16 32), Decidable (k0_chk1337 v520) := fun v520 => decidable_of_iff' _ (Iff.of_eq (k0_chk1337.eq_1 v520))
theorem k0_idx1337_inb : ∀ (v520 : IVec S16 32) (k0_hw1337 : k0_chk1337 v520), ∀ a x, ((![v520] : Fin 1 → IVec S16 32) a x).toNat < S100000.size a := fun v520 k0_hw1337 => k0_hw1337
def k0_off1546 (k0_t126 : Fin k0_t126_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1338 (v527 : IVec S16 32) : Prop :=
  (∀ a x, ((![v527] : Fin 1 → IVec S16 32) a x).toNat < S100000.size a)
instance k0_chk1338.dec : ∀ (v527 : IVec S16 32), Decidable (k0_chk1338 v527) := fun v527 => decidable_of_iff' _ (Iff.of_eq (k0_chk1338.eq_1 v527))
theorem k0_idx1338_inb : ∀ (v527 : IVec S16 32) (k0_hw1338 : k0_chk1338 v527), ∀ a x, ((![v527] : Fin 1 → IVec S16 32) a x).toNat < S100000.size a := fun v527 k0_hw1338 => k0_hw1338
def k0_off1547 (k0_t126 : Fin k0_t126_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1339 (v534 : IVec S16 32) : Prop :=
  (∀ a x, ((![v534] : Fin 1 → IVec S16 32) a x).toNat < S100000.size a)
instance k0_chk1339.dec : ∀ (v534 : IVec S16 32), Decidable (k0_chk1339 v534) := fun v534 => decidable_of_iff' _ (Iff.of_eq (k0_chk1339.eq_1 v534))
theorem k0_idx1339_inb : ∀ (v534 : IVec S16 32) (k0_hw1339 : k0_chk1339 v534), ∀ a x, ((![v534] : Fin 1 → IVec S16 32) a x).toNat < S100000.size a := fun v534 k0_hw1339 => k0_hw1339
def k0_off1548 (k0_t126 : Fin k0_t126_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1340 (v541 : IVec S16 32) : Prop :=
  (∀ a x, ((![v541] : Fin 1 → IVec S16 32) a x).toNat < S100000.size a)
instance k0_chk1340.dec : ∀ (v541 : IVec S16 32), Decidable (k0_chk1340 v541) := fun v541 => decidable_of_iff' _ (Iff.of_eq (k0_chk1340.eq_1 v541))
theorem k0_idx1340_inb : ∀ (v541 : IVec S16 32) (k0_hw1340 : k0_chk1340 v541), ∀ a x, ((![v541] : Fin 1 → IVec S16 32) a x).toNat < S100000.size a := fun v541 k0_hw1340 => k0_hw1340
def k0_off1549 (k0_t126 : Fin k0_t126_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1341 (v548 : IVec S16 32) : Prop :=
  (∀ a x, ((![v548] : Fin 1 → IVec S16 32) a x).toNat < S100000.size a)
instance k0_chk1341.dec : ∀ (v548 : IVec S16 32), Decidable (k0_chk1341 v548) := fun v548 => decidable_of_iff' _ (Iff.of_eq (k0_chk1341.eq_1 v548))
theorem k0_idx1341_inb : ∀ (v548 : IVec S16 32) (k0_hw1341 : k0_chk1341 v548), ∀ a x, ((![v548] : Fin 1 → IVec S16 32) a x).toNat < S100000.size a := fun v548 k0_hw1341 => k0_hw1341
def k0_off1550 (k0_t126 : Fin k0_t126_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1342 (v555 : IVec S16 32) : Prop :=
  (∀ a x, ((![v555] : Fin 1 → IVec S16 32) a x).toNat < S100000.size a)
instance k0_chk1342.dec : ∀ (v555 : IVec S16 32), Decidable (k0_chk1342 v555) := fun v555 => decidable_of_iff' _ (Iff.of_eq (k0_chk1342.eq_1 v555))
theorem k0_idx1342_inb : ∀ (v555 : IVec S16 32) (k0_hw1342 : k0_chk1342 v555), ∀ a x, ((![v555] : Fin 1 → IVec S16 32) a x).toNat < S100000.size a := fun v555 k0_hw1342 => k0_hw1342
def k0_off1551 (k0_t126 : Fin k0_t126_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1343 (v562 : IVec S16 32) : Prop :=
  (∀ a x, ((![v562] : Fin 1 → IVec S16 32) a x).toNat < S100000.size a)
instance k0_chk1343.dec : ∀ (v562 : IVec S16 32), Decidable (k0_chk1343 v562) := fun v562 => decidable_of_iff' _ (Iff.of_eq (k0_chk1343.eq_1 v562))
theorem k0_idx1343_inb : ∀ (v562 : IVec S16 32) (k0_hw1343 : k0_chk1343 v562), ∀ a x, ((![v562] : Fin 1 → IVec S16 32) a x).toNat < S100000.size a := fun v562 k0_hw1343 => k0_hw1343
def k0_off1552 (k0_t126 : Fin k0_t126_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1344 (v569 : IVec S16 32) : Prop :=
  (∀ a x, ((![v569] : Fin 1 → IVec S16 32) a x).toNat < S100000.size a)
instance k0_chk1344.dec : ∀ (v569 : IVec S16 32), Decidable (k0_chk1344 v569) := fun v569 => decidable_of_iff' _ (Iff.of_eq (k0_chk1344.eq_1 v569))
theorem k0_idx1344_inb : ∀ (v569 : IVec S16 32) (k0_hw1344 : k0_chk1344 v569), ∀ a x, ((![v569] : Fin 1 → IVec S16 32) a x).toNat < S100000.size a := fun v569 k0_hw1344 => k0_hw1344
def k0_off1553 (k0_t126 : Fin k0_t126_loop.trips) : Fin 1 → Nat :=
  let c0_i32_281 : BitVec 32 := 0#32
  let c1_i32_283 : BitVec 32 := 1#32
  let arg36 : BitVec 32 := Scf.iv c0_i32_281 c1_i32_283 k0_t126
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1554 (i : grid0.Coords) (k0_t124 : Fin (k0_t124_loop i).trips) : Fin 2 → Nat :=
  let c720_i32_285 : BitVec 32 := 720#32
  let c36_i32_215 : BitVec 32 := 36#32
  let c0_i32_214 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c720_i32 : BitVec 32 := 720#32
  let v359 : BitVec 32 := Scalar.subi v19 c720_i32
  let v360 : BitVec 32 := Scalar.maxsi c0_i32_214 v359
  let v361 : BitVec 32 := Scalar.minsi c36_i32_215 v360
  let c36_i32_218 : BitVec 32 := 36#32
  let c0_i32_217 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c720_i32_216 : BitVec 32 := 720#32
  let v362 : BitVec 32 := Scalar.subi v38 c720_i32_216
  let v363 : BitVec 32 := Scalar.maxsi c0_i32_217 v362
  let v364 : BitVec 32 := Scalar.minsi c36_i32_218 v363
  let v368 : BitVec 32 := Scalar.subi v364 v361
  let c1_i32_221 : BitVec 32 := 1#32
  let v370 : BitVec 32 := Scalar.divsi v368 c1_i32_221
  let v371 : BitVec 32 := Scalar.muli v370 c1_i32_221
  let v372 : BitVec 32 := Scalar.addi v361 v371
  let c1_i32_223 : BitVec 32 := 1#32
  let arg34 : BitVec 32 := Scf.iv v372 c1_i32_223 k0_t124
  let v460 : BitVec 32 := Scalar.addi c720_i32_285 arg34
  let c8192_i32_r167 : BitVec 32 := 8192#32
  ![v460.toNat, 8192]
@[reducible] def k0_t127_loop (i : grid0.Coords) : Scf.Loop 32 :=
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c36_i32_228 : BitVec 32 := 36#32
  let c0_i32_227 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c756_i32_226 : BitVec 32 := 756#32
  let v378 : BitVec 32 := Scalar.subi v38 c756_i32_226
  let v379 : BitVec 32 := Scalar.maxsi c0_i32_227 v378
  let v380 : BitVec 32 := Scalar.minsi c36_i32_228 v379
  let v384 : BitVec 32 := Scalar.subi v380 v377
  let c1_i32_231 : BitVec 32 := 1#32
  let v386 : BitVec 32 := Scalar.divsi v384 c1_i32_231
  let v387 : BitVec 32 := Scalar.muli v386 c1_i32_231
  let v388 : BitVec 32 := Scalar.addi v377 v387
  let c1_i32_232 : BitVec 32 := 1#32
  ⟨v377, v388, c1_i32_232⟩
def k0_off1555 (i : grid0.Coords) (k0_t127 : Fin (k0_t127_loop i).trips) : Fin 2 → Nat :=
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c1_i32_232 : BitVec 32 := 1#32
  let arg34 : BitVec 32 := Scf.iv v377 c1_i32_232 k0_t127
  let c0_i32_287_r170 : BitVec 32 := 0#32
  ![arg34.toNat, 0]
@[reducible] def k0_t128_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1556 (k0_t128 : Fin k0_t128_loop.trips) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1345 (v464 : IVec S16 32) : Prop :=
  (∀ a x, ((![v464] : Fin 1 → IVec S16 32) a x).toNat < S100000.size a)
instance k0_chk1345.dec : ∀ (v464 : IVec S16 32), Decidable (k0_chk1345 v464) := fun v464 => decidable_of_iff' _ (Iff.of_eq (k0_chk1345.eq_1 v464))
theorem k0_idx1345_inb : ∀ (v464 : IVec S16 32) (k0_hw1345 : k0_chk1345 v464), ∀ a x, ((![v464] : Fin 1 → IVec S16 32) a x).toNat < S100000.size a := fun v464 k0_hw1345 => k0_hw1345
def k0_off1557 (k0_t128 : Fin k0_t128_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1346 (v471 : IVec S16 32) : Prop :=
  (∀ a x, ((![v471] : Fin 1 → IVec S16 32) a x).toNat < S100000.size a)
instance k0_chk1346.dec : ∀ (v471 : IVec S16 32), Decidable (k0_chk1346 v471) := fun v471 => decidable_of_iff' _ (Iff.of_eq (k0_chk1346.eq_1 v471))
theorem k0_idx1346_inb : ∀ (v471 : IVec S16 32) (k0_hw1346 : k0_chk1346 v471), ∀ a x, ((![v471] : Fin 1 → IVec S16 32) a x).toNat < S100000.size a := fun v471 k0_hw1346 => k0_hw1346
def k0_off1558 (k0_t128 : Fin k0_t128_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1347 (v478 : IVec S16 32) : Prop :=
  (∀ a x, ((![v478] : Fin 1 → IVec S16 32) a x).toNat < S100000.size a)
instance k0_chk1347.dec : ∀ (v478 : IVec S16 32), Decidable (k0_chk1347 v478) := fun v478 => decidable_of_iff' _ (Iff.of_eq (k0_chk1347.eq_1 v478))
theorem k0_idx1347_inb : ∀ (v478 : IVec S16 32) (k0_hw1347 : k0_chk1347 v478), ∀ a x, ((![v478] : Fin 1 → IVec S16 32) a x).toNat < S100000.size a := fun v478 k0_hw1347 => k0_hw1347
def k0_off1559 (k0_t128 : Fin k0_t128_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1348 (v485 : IVec S16 32) : Prop :=
  (∀ a x, ((![v485] : Fin 1 → IVec S16 32) a x).toNat < S100000.size a)
instance k0_chk1348.dec : ∀ (v485 : IVec S16 32), Decidable (k0_chk1348 v485) := fun v485 => decidable_of_iff' _ (Iff.of_eq (k0_chk1348.eq_1 v485))
theorem k0_idx1348_inb : ∀ (v485 : IVec S16 32) (k0_hw1348 : k0_chk1348 v485), ∀ a x, ((![v485] : Fin 1 → IVec S16 32) a x).toNat < S100000.size a := fun v485 k0_hw1348 => k0_hw1348
def k0_off1560 (k0_t128 : Fin k0_t128_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1349 (v492 : IVec S16 32) : Prop :=
  (∀ a x, ((![v492] : Fin 1 → IVec S16 32) a x).toNat < S100000.size a)
instance k0_chk1349.dec : ∀ (v492 : IVec S16 32), Decidable (k0_chk1349 v492) := fun v492 => decidable_of_iff' _ (Iff.of_eq (k0_chk1349.eq_1 v492))
theorem k0_idx1349_inb : ∀ (v492 : IVec S16 32) (k0_hw1349 : k0_chk1349 v492), ∀ a x, ((![v492] : Fin 1 → IVec S16 32) a x).toNat < S100000.size a := fun v492 k0_hw1349 => k0_hw1349
def k0_off1561 (k0_t128 : Fin k0_t128_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1350 (v499 : IVec S16 32) : Prop :=
  (∀ a x, ((![v499] : Fin 1 → IVec S16 32) a x).toNat < S100000.size a)
instance k0_chk1350.dec : ∀ (v499 : IVec S16 32), Decidable (k0_chk1350 v499) := fun v499 => decidable_of_iff' _ (Iff.of_eq (k0_chk1350.eq_1 v499))
theorem k0_idx1350_inb : ∀ (v499 : IVec S16 32) (k0_hw1350 : k0_chk1350 v499), ∀ a x, ((![v499] : Fin 1 → IVec S16 32) a x).toNat < S100000.size a := fun v499 k0_hw1350 => k0_hw1350
def k0_off1562 (k0_t128 : Fin k0_t128_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1351 (v506 : IVec S16 32) : Prop :=
  (∀ a x, ((![v506] : Fin 1 → IVec S16 32) a x).toNat < S100000.size a)
instance k0_chk1351.dec : ∀ (v506 : IVec S16 32), Decidable (k0_chk1351 v506) := fun v506 => decidable_of_iff' _ (Iff.of_eq (k0_chk1351.eq_1 v506))
theorem k0_idx1351_inb : ∀ (v506 : IVec S16 32) (k0_hw1351 : k0_chk1351 v506), ∀ a x, ((![v506] : Fin 1 → IVec S16 32) a x).toNat < S100000.size a := fun v506 k0_hw1351 => k0_hw1351
def k0_off1563 (k0_t128 : Fin k0_t128_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1352 (v513 : IVec S16 32) : Prop :=
  (∀ a x, ((![v513] : Fin 1 → IVec S16 32) a x).toNat < S100000.size a)
instance k0_chk1352.dec : ∀ (v513 : IVec S16 32), Decidable (k0_chk1352 v513) := fun v513 => decidable_of_iff' _ (Iff.of_eq (k0_chk1352.eq_1 v513))
theorem k0_idx1352_inb : ∀ (v513 : IVec S16 32) (k0_hw1352 : k0_chk1352 v513), ∀ a x, ((![v513] : Fin 1 → IVec S16 32) a x).toNat < S100000.size a := fun v513 k0_hw1352 => k0_hw1352
def k0_off1564 (k0_t128 : Fin k0_t128_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1353 (v520 : IVec S16 32) : Prop :=
  (∀ a x, ((![v520] : Fin 1 → IVec S16 32) a x).toNat < S100000.size a)
instance k0_chk1353.dec : ∀ (v520 : IVec S16 32), Decidable (k0_chk1353 v520) := fun v520 => decidable_of_iff' _ (Iff.of_eq (k0_chk1353.eq_1 v520))
theorem k0_idx1353_inb : ∀ (v520 : IVec S16 32) (k0_hw1353 : k0_chk1353 v520), ∀ a x, ((![v520] : Fin 1 → IVec S16 32) a x).toNat < S100000.size a := fun v520 k0_hw1353 => k0_hw1353
def k0_off1565 (k0_t128 : Fin k0_t128_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1354 (v527 : IVec S16 32) : Prop :=
  (∀ a x, ((![v527] : Fin 1 → IVec S16 32) a x).toNat < S100000.size a)
instance k0_chk1354.dec : ∀ (v527 : IVec S16 32), Decidable (k0_chk1354 v527) := fun v527 => decidable_of_iff' _ (Iff.of_eq (k0_chk1354.eq_1 v527))
theorem k0_idx1354_inb : ∀ (v527 : IVec S16 32) (k0_hw1354 : k0_chk1354 v527), ∀ a x, ((![v527] : Fin 1 → IVec S16 32) a x).toNat < S100000.size a := fun v527 k0_hw1354 => k0_hw1354
def k0_off1566 (k0_t128 : Fin k0_t128_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1355 (v534 : IVec S16 32) : Prop :=
  (∀ a x, ((![v534] : Fin 1 → IVec S16 32) a x).toNat < S100000.size a)
instance k0_chk1355.dec : ∀ (v534 : IVec S16 32), Decidable (k0_chk1355 v534) := fun v534 => decidable_of_iff' _ (Iff.of_eq (k0_chk1355.eq_1 v534))
theorem k0_idx1355_inb : ∀ (v534 : IVec S16 32) (k0_hw1355 : k0_chk1355 v534), ∀ a x, ((![v534] : Fin 1 → IVec S16 32) a x).toNat < S100000.size a := fun v534 k0_hw1355 => k0_hw1355
def k0_off1567 (k0_t128 : Fin k0_t128_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1356 (v541 : IVec S16 32) : Prop :=
  (∀ a x, ((![v541] : Fin 1 → IVec S16 32) a x).toNat < S100000.size a)
instance k0_chk1356.dec : ∀ (v541 : IVec S16 32), Decidable (k0_chk1356 v541) := fun v541 => decidable_of_iff' _ (Iff.of_eq (k0_chk1356.eq_1 v541))
theorem k0_idx1356_inb : ∀ (v541 : IVec S16 32) (k0_hw1356 : k0_chk1356 v541), ∀ a x, ((![v541] : Fin 1 → IVec S16 32) a x).toNat < S100000.size a := fun v541 k0_hw1356 => k0_hw1356
def k0_off1568 (k0_t128 : Fin k0_t128_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1357 (v548 : IVec S16 32) : Prop :=
  (∀ a x, ((![v548] : Fin 1 → IVec S16 32) a x).toNat < S100000.size a)
instance k0_chk1357.dec : ∀ (v548 : IVec S16 32), Decidable (k0_chk1357 v548) := fun v548 => decidable_of_iff' _ (Iff.of_eq (k0_chk1357.eq_1 v548))
theorem k0_idx1357_inb : ∀ (v548 : IVec S16 32) (k0_hw1357 : k0_chk1357 v548), ∀ a x, ((![v548] : Fin 1 → IVec S16 32) a x).toNat < S100000.size a := fun v548 k0_hw1357 => k0_hw1357
def k0_off1569 (k0_t128 : Fin k0_t128_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1358 (v555 : IVec S16 32) : Prop :=
  (∀ a x, ((![v555] : Fin 1 → IVec S16 32) a x).toNat < S100000.size a)
instance k0_chk1358.dec : ∀ (v555 : IVec S16 32), Decidable (k0_chk1358 v555) := fun v555 => decidable_of_iff' _ (Iff.of_eq (k0_chk1358.eq_1 v555))
theorem k0_idx1358_inb : ∀ (v555 : IVec S16 32) (k0_hw1358 : k0_chk1358 v555), ∀ a x, ((![v555] : Fin 1 → IVec S16 32) a x).toNat < S100000.size a := fun v555 k0_hw1358 => k0_hw1358
def k0_off1570 (k0_t128 : Fin k0_t128_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1359 (v562 : IVec S16 32) : Prop :=
  (∀ a x, ((![v562] : Fin 1 → IVec S16 32) a x).toNat < S100000.size a)
instance k0_chk1359.dec : ∀ (v562 : IVec S16 32), Decidable (k0_chk1359 v562) := fun v562 => decidable_of_iff' _ (Iff.of_eq (k0_chk1359.eq_1 v562))
theorem k0_idx1359_inb : ∀ (v562 : IVec S16 32) (k0_hw1359 : k0_chk1359 v562), ∀ a x, ((![v562] : Fin 1 → IVec S16 32) a x).toNat < S100000.size a := fun v562 k0_hw1359 => k0_hw1359
def k0_off1571 (k0_t128 : Fin k0_t128_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1360 (v569 : IVec S16 32) : Prop :=
  (∀ a x, ((![v569] : Fin 1 → IVec S16 32) a x).toNat < S100000.size a)
instance k0_chk1360.dec : ∀ (v569 : IVec S16 32), Decidable (k0_chk1360 v569) := fun v569 => decidable_of_iff' _ (Iff.of_eq (k0_chk1360.eq_1 v569))
theorem k0_idx1360_inb : ∀ (v569 : IVec S16 32) (k0_hw1360 : k0_chk1360 v569), ∀ a x, ((![v569] : Fin 1 → IVec S16 32) a x).toNat < S100000.size a := fun v569 k0_hw1360 => k0_hw1360
def k0_off1572 (k0_t128 : Fin k0_t128_loop.trips) : Fin 1 → Nat :=
  let c0_i32_275 : BitVec 32 := 0#32
  let c1_i32_277 : BitVec 32 := 1#32
  let arg36 : BitVec 32 := Scf.iv c0_i32_275 c1_i32_277 k0_t128
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1573 (i : grid0.Coords) (k0_t127 : Fin (k0_t127_loop i).trips) : Fin 2 → Nat :=
  let c756_i32_279 : BitVec 32 := 756#32
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c1_i32_232 : BitVec 32 := 1#32
  let arg34 : BitVec 32 := Scf.iv v377 c1_i32_232 k0_t127
  let v457 : BitVec 32 := Scalar.addi c756_i32_279 arg34
  let c0_i32_287_r171 : BitVec 32 := 0#32
  ![v457.toNat, 0]
@[reducible] def k0_t129_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1574 (k0_t129 : Fin k0_t129_loop.trips) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1361 (v464 : IVec S16 32) : Prop :=
  (∀ a x, ((![v464] : Fin 1 → IVec S16 32) a x).toNat < S100000.size a)
instance k0_chk1361.dec : ∀ (v464 : IVec S16 32), Decidable (k0_chk1361 v464) := fun v464 => decidable_of_iff' _ (Iff.of_eq (k0_chk1361.eq_1 v464))
theorem k0_idx1361_inb : ∀ (v464 : IVec S16 32) (k0_hw1361 : k0_chk1361 v464), ∀ a x, ((![v464] : Fin 1 → IVec S16 32) a x).toNat < S100000.size a := fun v464 k0_hw1361 => k0_hw1361
def k0_off1575 (k0_t129 : Fin k0_t129_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1362 (v471 : IVec S16 32) : Prop :=
  (∀ a x, ((![v471] : Fin 1 → IVec S16 32) a x).toNat < S100000.size a)
instance k0_chk1362.dec : ∀ (v471 : IVec S16 32), Decidable (k0_chk1362 v471) := fun v471 => decidable_of_iff' _ (Iff.of_eq (k0_chk1362.eq_1 v471))
theorem k0_idx1362_inb : ∀ (v471 : IVec S16 32) (k0_hw1362 : k0_chk1362 v471), ∀ a x, ((![v471] : Fin 1 → IVec S16 32) a x).toNat < S100000.size a := fun v471 k0_hw1362 => k0_hw1362
def k0_off1576 (k0_t129 : Fin k0_t129_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1363 (v478 : IVec S16 32) : Prop :=
  (∀ a x, ((![v478] : Fin 1 → IVec S16 32) a x).toNat < S100000.size a)
instance k0_chk1363.dec : ∀ (v478 : IVec S16 32), Decidable (k0_chk1363 v478) := fun v478 => decidable_of_iff' _ (Iff.of_eq (k0_chk1363.eq_1 v478))
theorem k0_idx1363_inb : ∀ (v478 : IVec S16 32) (k0_hw1363 : k0_chk1363 v478), ∀ a x, ((![v478] : Fin 1 → IVec S16 32) a x).toNat < S100000.size a := fun v478 k0_hw1363 => k0_hw1363
def k0_off1577 (k0_t129 : Fin k0_t129_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1364 (v485 : IVec S16 32) : Prop :=
  (∀ a x, ((![v485] : Fin 1 → IVec S16 32) a x).toNat < S100000.size a)
instance k0_chk1364.dec : ∀ (v485 : IVec S16 32), Decidable (k0_chk1364 v485) := fun v485 => decidable_of_iff' _ (Iff.of_eq (k0_chk1364.eq_1 v485))
theorem k0_idx1364_inb : ∀ (v485 : IVec S16 32) (k0_hw1364 : k0_chk1364 v485), ∀ a x, ((![v485] : Fin 1 → IVec S16 32) a x).toNat < S100000.size a := fun v485 k0_hw1364 => k0_hw1364
def k0_off1578 (k0_t129 : Fin k0_t129_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1365 (v492 : IVec S16 32) : Prop :=
  (∀ a x, ((![v492] : Fin 1 → IVec S16 32) a x).toNat < S100000.size a)
instance k0_chk1365.dec : ∀ (v492 : IVec S16 32), Decidable (k0_chk1365 v492) := fun v492 => decidable_of_iff' _ (Iff.of_eq (k0_chk1365.eq_1 v492))
theorem k0_idx1365_inb : ∀ (v492 : IVec S16 32) (k0_hw1365 : k0_chk1365 v492), ∀ a x, ((![v492] : Fin 1 → IVec S16 32) a x).toNat < S100000.size a := fun v492 k0_hw1365 => k0_hw1365
def k0_off1579 (k0_t129 : Fin k0_t129_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1366 (v499 : IVec S16 32) : Prop :=
  (∀ a x, ((![v499] : Fin 1 → IVec S16 32) a x).toNat < S100000.size a)
instance k0_chk1366.dec : ∀ (v499 : IVec S16 32), Decidable (k0_chk1366 v499) := fun v499 => decidable_of_iff' _ (Iff.of_eq (k0_chk1366.eq_1 v499))
theorem k0_idx1366_inb : ∀ (v499 : IVec S16 32) (k0_hw1366 : k0_chk1366 v499), ∀ a x, ((![v499] : Fin 1 → IVec S16 32) a x).toNat < S100000.size a := fun v499 k0_hw1366 => k0_hw1366
def k0_off1580 (k0_t129 : Fin k0_t129_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1367 (v506 : IVec S16 32) : Prop :=
  (∀ a x, ((![v506] : Fin 1 → IVec S16 32) a x).toNat < S100000.size a)
instance k0_chk1367.dec : ∀ (v506 : IVec S16 32), Decidable (k0_chk1367 v506) := fun v506 => decidable_of_iff' _ (Iff.of_eq (k0_chk1367.eq_1 v506))
theorem k0_idx1367_inb : ∀ (v506 : IVec S16 32) (k0_hw1367 : k0_chk1367 v506), ∀ a x, ((![v506] : Fin 1 → IVec S16 32) a x).toNat < S100000.size a := fun v506 k0_hw1367 => k0_hw1367
def k0_off1581 (k0_t129 : Fin k0_t129_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1368 (v513 : IVec S16 32) : Prop :=
  (∀ a x, ((![v513] : Fin 1 → IVec S16 32) a x).toNat < S100000.size a)
instance k0_chk1368.dec : ∀ (v513 : IVec S16 32), Decidable (k0_chk1368 v513) := fun v513 => decidable_of_iff' _ (Iff.of_eq (k0_chk1368.eq_1 v513))
theorem k0_idx1368_inb : ∀ (v513 : IVec S16 32) (k0_hw1368 : k0_chk1368 v513), ∀ a x, ((![v513] : Fin 1 → IVec S16 32) a x).toNat < S100000.size a := fun v513 k0_hw1368 => k0_hw1368
def k0_off1582 (k0_t129 : Fin k0_t129_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1369 (v520 : IVec S16 32) : Prop :=
  (∀ a x, ((![v520] : Fin 1 → IVec S16 32) a x).toNat < S100000.size a)
instance k0_chk1369.dec : ∀ (v520 : IVec S16 32), Decidable (k0_chk1369 v520) := fun v520 => decidable_of_iff' _ (Iff.of_eq (k0_chk1369.eq_1 v520))
theorem k0_idx1369_inb : ∀ (v520 : IVec S16 32) (k0_hw1369 : k0_chk1369 v520), ∀ a x, ((![v520] : Fin 1 → IVec S16 32) a x).toNat < S100000.size a := fun v520 k0_hw1369 => k0_hw1369
def k0_off1583 (k0_t129 : Fin k0_t129_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1370 (v527 : IVec S16 32) : Prop :=
  (∀ a x, ((![v527] : Fin 1 → IVec S16 32) a x).toNat < S100000.size a)
instance k0_chk1370.dec : ∀ (v527 : IVec S16 32), Decidable (k0_chk1370 v527) := fun v527 => decidable_of_iff' _ (Iff.of_eq (k0_chk1370.eq_1 v527))
theorem k0_idx1370_inb : ∀ (v527 : IVec S16 32) (k0_hw1370 : k0_chk1370 v527), ∀ a x, ((![v527] : Fin 1 → IVec S16 32) a x).toNat < S100000.size a := fun v527 k0_hw1370 => k0_hw1370
def k0_off1584 (k0_t129 : Fin k0_t129_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1371 (v534 : IVec S16 32) : Prop :=
  (∀ a x, ((![v534] : Fin 1 → IVec S16 32) a x).toNat < S100000.size a)
instance k0_chk1371.dec : ∀ (v534 : IVec S16 32), Decidable (k0_chk1371 v534) := fun v534 => decidable_of_iff' _ (Iff.of_eq (k0_chk1371.eq_1 v534))
theorem k0_idx1371_inb : ∀ (v534 : IVec S16 32) (k0_hw1371 : k0_chk1371 v534), ∀ a x, ((![v534] : Fin 1 → IVec S16 32) a x).toNat < S100000.size a := fun v534 k0_hw1371 => k0_hw1371
def k0_off1585 (k0_t129 : Fin k0_t129_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1372 (v541 : IVec S16 32) : Prop :=
  (∀ a x, ((![v541] : Fin 1 → IVec S16 32) a x).toNat < S100000.size a)
instance k0_chk1372.dec : ∀ (v541 : IVec S16 32), Decidable (k0_chk1372 v541) := fun v541 => decidable_of_iff' _ (Iff.of_eq (k0_chk1372.eq_1 v541))
theorem k0_idx1372_inb : ∀ (v541 : IVec S16 32) (k0_hw1372 : k0_chk1372 v541), ∀ a x, ((![v541] : Fin 1 → IVec S16 32) a x).toNat < S100000.size a := fun v541 k0_hw1372 => k0_hw1372
def k0_off1586 (k0_t129 : Fin k0_t129_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1373 (v548 : IVec S16 32) : Prop :=
  (∀ a x, ((![v548] : Fin 1 → IVec S16 32) a x).toNat < S100000.size a)
instance k0_chk1373.dec : ∀ (v548 : IVec S16 32), Decidable (k0_chk1373 v548) := fun v548 => decidable_of_iff' _ (Iff.of_eq (k0_chk1373.eq_1 v548))
theorem k0_idx1373_inb : ∀ (v548 : IVec S16 32) (k0_hw1373 : k0_chk1373 v548), ∀ a x, ((![v548] : Fin 1 → IVec S16 32) a x).toNat < S100000.size a := fun v548 k0_hw1373 => k0_hw1373
def k0_off1587 (k0_t129 : Fin k0_t129_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1374 (v555 : IVec S16 32) : Prop :=
  (∀ a x, ((![v555] : Fin 1 → IVec S16 32) a x).toNat < S100000.size a)
instance k0_chk1374.dec : ∀ (v555 : IVec S16 32), Decidable (k0_chk1374 v555) := fun v555 => decidable_of_iff' _ (Iff.of_eq (k0_chk1374.eq_1 v555))
theorem k0_idx1374_inb : ∀ (v555 : IVec S16 32) (k0_hw1374 : k0_chk1374 v555), ∀ a x, ((![v555] : Fin 1 → IVec S16 32) a x).toNat < S100000.size a := fun v555 k0_hw1374 => k0_hw1374
def k0_off1588 (k0_t129 : Fin k0_t129_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1375 (v562 : IVec S16 32) : Prop :=
  (∀ a x, ((![v562] : Fin 1 → IVec S16 32) a x).toNat < S100000.size a)
instance k0_chk1375.dec : ∀ (v562 : IVec S16 32), Decidable (k0_chk1375 v562) := fun v562 => decidable_of_iff' _ (Iff.of_eq (k0_chk1375.eq_1 v562))
theorem k0_idx1375_inb : ∀ (v562 : IVec S16 32) (k0_hw1375 : k0_chk1375 v562), ∀ a x, ((![v562] : Fin 1 → IVec S16 32) a x).toNat < S100000.size a := fun v562 k0_hw1375 => k0_hw1375
def k0_off1589 (k0_t129 : Fin k0_t129_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1376 (v569 : IVec S16 32) : Prop :=
  (∀ a x, ((![v569] : Fin 1 → IVec S16 32) a x).toNat < S100000.size a)
instance k0_chk1376.dec : ∀ (v569 : IVec S16 32), Decidable (k0_chk1376 v569) := fun v569 => decidable_of_iff' _ (Iff.of_eq (k0_chk1376.eq_1 v569))
theorem k0_idx1376_inb : ∀ (v569 : IVec S16 32) (k0_hw1376 : k0_chk1376 v569), ∀ a x, ((![v569] : Fin 1 → IVec S16 32) a x).toNat < S100000.size a := fun v569 k0_hw1376 => k0_hw1376
def k0_off1590 (k0_t129 : Fin k0_t129_loop.trips) : Fin 1 → Nat :=
  let c0_i32_281 : BitVec 32 := 0#32
  let c1_i32_283 : BitVec 32 := 1#32
  let arg36 : BitVec 32 := Scf.iv c0_i32_281 c1_i32_283 k0_t129
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1591 (i : grid0.Coords) (k0_t127 : Fin (k0_t127_loop i).trips) : Fin 2 → Nat :=
  let c756_i32_285 : BitVec 32 := 756#32
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c1_i32_232 : BitVec 32 := 1#32
  let arg34 : BitVec 32 := Scf.iv v377 c1_i32_232 k0_t127
  let v460 : BitVec 32 := Scalar.addi c756_i32_285 arg34
  let c8192_i32_r172 : BitVec 32 := 8192#32
  ![v460.toNat, 8192]
@[reducible] def k0_t130_loop (i : grid0.Coords) : Scf.Loop 32 :=
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c36_i32_228 : BitVec 32 := 36#32
  let c0_i32_227 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c756_i32_226 : BitVec 32 := 756#32
  let v378 : BitVec 32 := Scalar.subi v38 c756_i32_226
  let v379 : BitVec 32 := Scalar.maxsi c0_i32_227 v378
  let v380 : BitVec 32 := Scalar.minsi c36_i32_228 v379
  let v384 : BitVec 32 := Scalar.subi v380 v377
  let c1_i32_231 : BitVec 32 := 1#32
  let v386 : BitVec 32 := Scalar.divsi v384 c1_i32_231
  let v387 : BitVec 32 := Scalar.muli v386 c1_i32_231
  let v388 : BitVec 32 := Scalar.addi v377 v387
  let v385 : BitVec 32 := Scalar.addi v377 v384
  let c1_i32_233 : BitVec 32 := 1#32
  ⟨v388, v385, c1_i32_233⟩
def k0_off1592 (i : grid0.Coords) (k0_t130 : Fin (k0_t130_loop i).trips) : Fin 2 → Nat :=
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c36_i32_228 : BitVec 32 := 36#32
  let c0_i32_227 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c756_i32_226 : BitVec 32 := 756#32
  let v378 : BitVec 32 := Scalar.subi v38 c756_i32_226
  let v379 : BitVec 32 := Scalar.maxsi c0_i32_227 v378
  let v380 : BitVec 32 := Scalar.minsi c36_i32_228 v379
  let v384 : BitVec 32 := Scalar.subi v380 v377
  let c1_i32_231 : BitVec 32 := 1#32
  let v386 : BitVec 32 := Scalar.divsi v384 c1_i32_231
  let v387 : BitVec 32 := Scalar.muli v386 c1_i32_231
  let v388 : BitVec 32 := Scalar.addi v377 v387
  let c1_i32_233 : BitVec 32 := 1#32
  let arg34 : BitVec 32 := Scf.iv v388 c1_i32_233 k0_t130
  let c0_i32_287_r173 : BitVec 32 := 0#32
  ![arg34.toNat, 0]
@[reducible] def k0_t131_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1593 (k0_t131 : Fin k0_t131_loop.trips) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1377 (v464 : IVec S16 32) : Prop :=
  (∀ a x, ((![v464] : Fin 1 → IVec S16 32) a x).toNat < S100000.size a)
instance k0_chk1377.dec : ∀ (v464 : IVec S16 32), Decidable (k0_chk1377 v464) := fun v464 => decidable_of_iff' _ (Iff.of_eq (k0_chk1377.eq_1 v464))
theorem k0_idx1377_inb : ∀ (v464 : IVec S16 32) (k0_hw1377 : k0_chk1377 v464), ∀ a x, ((![v464] : Fin 1 → IVec S16 32) a x).toNat < S100000.size a := fun v464 k0_hw1377 => k0_hw1377
def k0_off1594 (k0_t131 : Fin k0_t131_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1378 (v471 : IVec S16 32) : Prop :=
  (∀ a x, ((![v471] : Fin 1 → IVec S16 32) a x).toNat < S100000.size a)
instance k0_chk1378.dec : ∀ (v471 : IVec S16 32), Decidable (k0_chk1378 v471) := fun v471 => decidable_of_iff' _ (Iff.of_eq (k0_chk1378.eq_1 v471))
theorem k0_idx1378_inb : ∀ (v471 : IVec S16 32) (k0_hw1378 : k0_chk1378 v471), ∀ a x, ((![v471] : Fin 1 → IVec S16 32) a x).toNat < S100000.size a := fun v471 k0_hw1378 => k0_hw1378
def k0_off1595 (k0_t131 : Fin k0_t131_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1379 (v478 : IVec S16 32) : Prop :=
  (∀ a x, ((![v478] : Fin 1 → IVec S16 32) a x).toNat < S100000.size a)
instance k0_chk1379.dec : ∀ (v478 : IVec S16 32), Decidable (k0_chk1379 v478) := fun v478 => decidable_of_iff' _ (Iff.of_eq (k0_chk1379.eq_1 v478))
theorem k0_idx1379_inb : ∀ (v478 : IVec S16 32) (k0_hw1379 : k0_chk1379 v478), ∀ a x, ((![v478] : Fin 1 → IVec S16 32) a x).toNat < S100000.size a := fun v478 k0_hw1379 => k0_hw1379
def k0_off1596 (k0_t131 : Fin k0_t131_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1380 (v485 : IVec S16 32) : Prop :=
  (∀ a x, ((![v485] : Fin 1 → IVec S16 32) a x).toNat < S100000.size a)
instance k0_chk1380.dec : ∀ (v485 : IVec S16 32), Decidable (k0_chk1380 v485) := fun v485 => decidable_of_iff' _ (Iff.of_eq (k0_chk1380.eq_1 v485))
theorem k0_idx1380_inb : ∀ (v485 : IVec S16 32) (k0_hw1380 : k0_chk1380 v485), ∀ a x, ((![v485] : Fin 1 → IVec S16 32) a x).toNat < S100000.size a := fun v485 k0_hw1380 => k0_hw1380
def k0_off1597 (k0_t131 : Fin k0_t131_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1381 (v492 : IVec S16 32) : Prop :=
  (∀ a x, ((![v492] : Fin 1 → IVec S16 32) a x).toNat < S100000.size a)
instance k0_chk1381.dec : ∀ (v492 : IVec S16 32), Decidable (k0_chk1381 v492) := fun v492 => decidable_of_iff' _ (Iff.of_eq (k0_chk1381.eq_1 v492))
theorem k0_idx1381_inb : ∀ (v492 : IVec S16 32) (k0_hw1381 : k0_chk1381 v492), ∀ a x, ((![v492] : Fin 1 → IVec S16 32) a x).toNat < S100000.size a := fun v492 k0_hw1381 => k0_hw1381
def k0_off1598 (k0_t131 : Fin k0_t131_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1382 (v499 : IVec S16 32) : Prop :=
  (∀ a x, ((![v499] : Fin 1 → IVec S16 32) a x).toNat < S100000.size a)
instance k0_chk1382.dec : ∀ (v499 : IVec S16 32), Decidable (k0_chk1382 v499) := fun v499 => decidable_of_iff' _ (Iff.of_eq (k0_chk1382.eq_1 v499))
theorem k0_idx1382_inb : ∀ (v499 : IVec S16 32) (k0_hw1382 : k0_chk1382 v499), ∀ a x, ((![v499] : Fin 1 → IVec S16 32) a x).toNat < S100000.size a := fun v499 k0_hw1382 => k0_hw1382
def k0_off1599 (k0_t131 : Fin k0_t131_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1383 (v506 : IVec S16 32) : Prop :=
  (∀ a x, ((![v506] : Fin 1 → IVec S16 32) a x).toNat < S100000.size a)
instance k0_chk1383.dec : ∀ (v506 : IVec S16 32), Decidable (k0_chk1383 v506) := fun v506 => decidable_of_iff' _ (Iff.of_eq (k0_chk1383.eq_1 v506))
theorem k0_idx1383_inb : ∀ (v506 : IVec S16 32) (k0_hw1383 : k0_chk1383 v506), ∀ a x, ((![v506] : Fin 1 → IVec S16 32) a x).toNat < S100000.size a := fun v506 k0_hw1383 => k0_hw1383
def k0_off1600 (k0_t131 : Fin k0_t131_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1384 (v513 : IVec S16 32) : Prop :=
  (∀ a x, ((![v513] : Fin 1 → IVec S16 32) a x).toNat < S100000.size a)
instance k0_chk1384.dec : ∀ (v513 : IVec S16 32), Decidable (k0_chk1384 v513) := fun v513 => decidable_of_iff' _ (Iff.of_eq (k0_chk1384.eq_1 v513))
theorem k0_idx1384_inb : ∀ (v513 : IVec S16 32) (k0_hw1384 : k0_chk1384 v513), ∀ a x, ((![v513] : Fin 1 → IVec S16 32) a x).toNat < S100000.size a := fun v513 k0_hw1384 => k0_hw1384
def k0_off1601 (k0_t131 : Fin k0_t131_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1385 (v520 : IVec S16 32) : Prop :=
  (∀ a x, ((![v520] : Fin 1 → IVec S16 32) a x).toNat < S100000.size a)
instance k0_chk1385.dec : ∀ (v520 : IVec S16 32), Decidable (k0_chk1385 v520) := fun v520 => decidable_of_iff' _ (Iff.of_eq (k0_chk1385.eq_1 v520))
theorem k0_idx1385_inb : ∀ (v520 : IVec S16 32) (k0_hw1385 : k0_chk1385 v520), ∀ a x, ((![v520] : Fin 1 → IVec S16 32) a x).toNat < S100000.size a := fun v520 k0_hw1385 => k0_hw1385
def k0_off1602 (k0_t131 : Fin k0_t131_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1386 (v527 : IVec S16 32) : Prop :=
  (∀ a x, ((![v527] : Fin 1 → IVec S16 32) a x).toNat < S100000.size a)
instance k0_chk1386.dec : ∀ (v527 : IVec S16 32), Decidable (k0_chk1386 v527) := fun v527 => decidable_of_iff' _ (Iff.of_eq (k0_chk1386.eq_1 v527))
theorem k0_idx1386_inb : ∀ (v527 : IVec S16 32) (k0_hw1386 : k0_chk1386 v527), ∀ a x, ((![v527] : Fin 1 → IVec S16 32) a x).toNat < S100000.size a := fun v527 k0_hw1386 => k0_hw1386
def k0_off1603 (k0_t131 : Fin k0_t131_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1387 (v534 : IVec S16 32) : Prop :=
  (∀ a x, ((![v534] : Fin 1 → IVec S16 32) a x).toNat < S100000.size a)
instance k0_chk1387.dec : ∀ (v534 : IVec S16 32), Decidable (k0_chk1387 v534) := fun v534 => decidable_of_iff' _ (Iff.of_eq (k0_chk1387.eq_1 v534))
theorem k0_idx1387_inb : ∀ (v534 : IVec S16 32) (k0_hw1387 : k0_chk1387 v534), ∀ a x, ((![v534] : Fin 1 → IVec S16 32) a x).toNat < S100000.size a := fun v534 k0_hw1387 => k0_hw1387
def k0_off1604 (k0_t131 : Fin k0_t131_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1388 (v541 : IVec S16 32) : Prop :=
  (∀ a x, ((![v541] : Fin 1 → IVec S16 32) a x).toNat < S100000.size a)
instance k0_chk1388.dec : ∀ (v541 : IVec S16 32), Decidable (k0_chk1388 v541) := fun v541 => decidable_of_iff' _ (Iff.of_eq (k0_chk1388.eq_1 v541))
theorem k0_idx1388_inb : ∀ (v541 : IVec S16 32) (k0_hw1388 : k0_chk1388 v541), ∀ a x, ((![v541] : Fin 1 → IVec S16 32) a x).toNat < S100000.size a := fun v541 k0_hw1388 => k0_hw1388
def k0_off1605 (k0_t131 : Fin k0_t131_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1389 (v548 : IVec S16 32) : Prop :=
  (∀ a x, ((![v548] : Fin 1 → IVec S16 32) a x).toNat < S100000.size a)
instance k0_chk1389.dec : ∀ (v548 : IVec S16 32), Decidable (k0_chk1389 v548) := fun v548 => decidable_of_iff' _ (Iff.of_eq (k0_chk1389.eq_1 v548))
theorem k0_idx1389_inb : ∀ (v548 : IVec S16 32) (k0_hw1389 : k0_chk1389 v548), ∀ a x, ((![v548] : Fin 1 → IVec S16 32) a x).toNat < S100000.size a := fun v548 k0_hw1389 => k0_hw1389
def k0_off1606 (k0_t131 : Fin k0_t131_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1390 (v555 : IVec S16 32) : Prop :=
  (∀ a x, ((![v555] : Fin 1 → IVec S16 32) a x).toNat < S100000.size a)
instance k0_chk1390.dec : ∀ (v555 : IVec S16 32), Decidable (k0_chk1390 v555) := fun v555 => decidable_of_iff' _ (Iff.of_eq (k0_chk1390.eq_1 v555))
theorem k0_idx1390_inb : ∀ (v555 : IVec S16 32) (k0_hw1390 : k0_chk1390 v555), ∀ a x, ((![v555] : Fin 1 → IVec S16 32) a x).toNat < S100000.size a := fun v555 k0_hw1390 => k0_hw1390
def k0_off1607 (k0_t131 : Fin k0_t131_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1391 (v562 : IVec S16 32) : Prop :=
  (∀ a x, ((![v562] : Fin 1 → IVec S16 32) a x).toNat < S100000.size a)
instance k0_chk1391.dec : ∀ (v562 : IVec S16 32), Decidable (k0_chk1391 v562) := fun v562 => decidable_of_iff' _ (Iff.of_eq (k0_chk1391.eq_1 v562))
theorem k0_idx1391_inb : ∀ (v562 : IVec S16 32) (k0_hw1391 : k0_chk1391 v562), ∀ a x, ((![v562] : Fin 1 → IVec S16 32) a x).toNat < S100000.size a := fun v562 k0_hw1391 => k0_hw1391
def k0_off1608 (k0_t131 : Fin k0_t131_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1392 (v569 : IVec S16 32) : Prop :=
  (∀ a x, ((![v569] : Fin 1 → IVec S16 32) a x).toNat < S100000.size a)
instance k0_chk1392.dec : ∀ (v569 : IVec S16 32), Decidable (k0_chk1392 v569) := fun v569 => decidable_of_iff' _ (Iff.of_eq (k0_chk1392.eq_1 v569))
theorem k0_idx1392_inb : ∀ (v569 : IVec S16 32) (k0_hw1392 : k0_chk1392 v569), ∀ a x, ((![v569] : Fin 1 → IVec S16 32) a x).toNat < S100000.size a := fun v569 k0_hw1392 => k0_hw1392
def k0_off1609 (k0_t131 : Fin k0_t131_loop.trips) : Fin 1 → Nat :=
  let c0_i32_275 : BitVec 32 := 0#32
  let c1_i32_277 : BitVec 32 := 1#32
  let arg36 : BitVec 32 := Scf.iv c0_i32_275 c1_i32_277 k0_t131
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1610 (i : grid0.Coords) (k0_t130 : Fin (k0_t130_loop i).trips) : Fin 2 → Nat :=
  let c756_i32_279 : BitVec 32 := 756#32
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c36_i32_228 : BitVec 32 := 36#32
  let c0_i32_227 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c756_i32_226 : BitVec 32 := 756#32
  let v378 : BitVec 32 := Scalar.subi v38 c756_i32_226
  let v379 : BitVec 32 := Scalar.maxsi c0_i32_227 v378
  let v380 : BitVec 32 := Scalar.minsi c36_i32_228 v379
  let v384 : BitVec 32 := Scalar.subi v380 v377
  let c1_i32_231 : BitVec 32 := 1#32
  let v386 : BitVec 32 := Scalar.divsi v384 c1_i32_231
  let v387 : BitVec 32 := Scalar.muli v386 c1_i32_231
  let v388 : BitVec 32 := Scalar.addi v377 v387
  let c1_i32_233 : BitVec 32 := 1#32
  let arg34 : BitVec 32 := Scf.iv v388 c1_i32_233 k0_t130
  let v457 : BitVec 32 := Scalar.addi c756_i32_279 arg34
  let c0_i32_287_r174 : BitVec 32 := 0#32
  ![v457.toNat, 0]
@[reducible] def k0_t132_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1611 (k0_t132 : Fin k0_t132_loop.trips) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1393 (v464 : IVec S16 32) : Prop :=
  (∀ a x, ((![v464] : Fin 1 → IVec S16 32) a x).toNat < S100000.size a)
instance k0_chk1393.dec : ∀ (v464 : IVec S16 32), Decidable (k0_chk1393 v464) := fun v464 => decidable_of_iff' _ (Iff.of_eq (k0_chk1393.eq_1 v464))
theorem k0_idx1393_inb : ∀ (v464 : IVec S16 32) (k0_hw1393 : k0_chk1393 v464), ∀ a x, ((![v464] : Fin 1 → IVec S16 32) a x).toNat < S100000.size a := fun v464 k0_hw1393 => k0_hw1393
def k0_off1612 (k0_t132 : Fin k0_t132_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1394 (v471 : IVec S16 32) : Prop :=
  (∀ a x, ((![v471] : Fin 1 → IVec S16 32) a x).toNat < S100000.size a)
instance k0_chk1394.dec : ∀ (v471 : IVec S16 32), Decidable (k0_chk1394 v471) := fun v471 => decidable_of_iff' _ (Iff.of_eq (k0_chk1394.eq_1 v471))
theorem k0_idx1394_inb : ∀ (v471 : IVec S16 32) (k0_hw1394 : k0_chk1394 v471), ∀ a x, ((![v471] : Fin 1 → IVec S16 32) a x).toNat < S100000.size a := fun v471 k0_hw1394 => k0_hw1394
def k0_off1613 (k0_t132 : Fin k0_t132_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1395 (v478 : IVec S16 32) : Prop :=
  (∀ a x, ((![v478] : Fin 1 → IVec S16 32) a x).toNat < S100000.size a)
instance k0_chk1395.dec : ∀ (v478 : IVec S16 32), Decidable (k0_chk1395 v478) := fun v478 => decidable_of_iff' _ (Iff.of_eq (k0_chk1395.eq_1 v478))
theorem k0_idx1395_inb : ∀ (v478 : IVec S16 32) (k0_hw1395 : k0_chk1395 v478), ∀ a x, ((![v478] : Fin 1 → IVec S16 32) a x).toNat < S100000.size a := fun v478 k0_hw1395 => k0_hw1395
def k0_off1614 (k0_t132 : Fin k0_t132_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1396 (v485 : IVec S16 32) : Prop :=
  (∀ a x, ((![v485] : Fin 1 → IVec S16 32) a x).toNat < S100000.size a)
instance k0_chk1396.dec : ∀ (v485 : IVec S16 32), Decidable (k0_chk1396 v485) := fun v485 => decidable_of_iff' _ (Iff.of_eq (k0_chk1396.eq_1 v485))
theorem k0_idx1396_inb : ∀ (v485 : IVec S16 32) (k0_hw1396 : k0_chk1396 v485), ∀ a x, ((![v485] : Fin 1 → IVec S16 32) a x).toNat < S100000.size a := fun v485 k0_hw1396 => k0_hw1396
def k0_off1615 (k0_t132 : Fin k0_t132_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1397 (v492 : IVec S16 32) : Prop :=
  (∀ a x, ((![v492] : Fin 1 → IVec S16 32) a x).toNat < S100000.size a)
instance k0_chk1397.dec : ∀ (v492 : IVec S16 32), Decidable (k0_chk1397 v492) := fun v492 => decidable_of_iff' _ (Iff.of_eq (k0_chk1397.eq_1 v492))
theorem k0_idx1397_inb : ∀ (v492 : IVec S16 32) (k0_hw1397 : k0_chk1397 v492), ∀ a x, ((![v492] : Fin 1 → IVec S16 32) a x).toNat < S100000.size a := fun v492 k0_hw1397 => k0_hw1397
def k0_off1616 (k0_t132 : Fin k0_t132_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1398 (v499 : IVec S16 32) : Prop :=
  (∀ a x, ((![v499] : Fin 1 → IVec S16 32) a x).toNat < S100000.size a)
instance k0_chk1398.dec : ∀ (v499 : IVec S16 32), Decidable (k0_chk1398 v499) := fun v499 => decidable_of_iff' _ (Iff.of_eq (k0_chk1398.eq_1 v499))
theorem k0_idx1398_inb : ∀ (v499 : IVec S16 32) (k0_hw1398 : k0_chk1398 v499), ∀ a x, ((![v499] : Fin 1 → IVec S16 32) a x).toNat < S100000.size a := fun v499 k0_hw1398 => k0_hw1398
def k0_off1617 (k0_t132 : Fin k0_t132_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1399 (v506 : IVec S16 32) : Prop :=
  (∀ a x, ((![v506] : Fin 1 → IVec S16 32) a x).toNat < S100000.size a)
instance k0_chk1399.dec : ∀ (v506 : IVec S16 32), Decidable (k0_chk1399 v506) := fun v506 => decidable_of_iff' _ (Iff.of_eq (k0_chk1399.eq_1 v506))
theorem k0_idx1399_inb : ∀ (v506 : IVec S16 32) (k0_hw1399 : k0_chk1399 v506), ∀ a x, ((![v506] : Fin 1 → IVec S16 32) a x).toNat < S100000.size a := fun v506 k0_hw1399 => k0_hw1399
def k0_off1618 (k0_t132 : Fin k0_t132_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1400 (v513 : IVec S16 32) : Prop :=
  (∀ a x, ((![v513] : Fin 1 → IVec S16 32) a x).toNat < S100000.size a)
instance k0_chk1400.dec : ∀ (v513 : IVec S16 32), Decidable (k0_chk1400 v513) := fun v513 => decidable_of_iff' _ (Iff.of_eq (k0_chk1400.eq_1 v513))
theorem k0_idx1400_inb : ∀ (v513 : IVec S16 32) (k0_hw1400 : k0_chk1400 v513), ∀ a x, ((![v513] : Fin 1 → IVec S16 32) a x).toNat < S100000.size a := fun v513 k0_hw1400 => k0_hw1400
def k0_off1619 (k0_t132 : Fin k0_t132_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1401 (v520 : IVec S16 32) : Prop :=
  (∀ a x, ((![v520] : Fin 1 → IVec S16 32) a x).toNat < S100000.size a)
instance k0_chk1401.dec : ∀ (v520 : IVec S16 32), Decidable (k0_chk1401 v520) := fun v520 => decidable_of_iff' _ (Iff.of_eq (k0_chk1401.eq_1 v520))
theorem k0_idx1401_inb : ∀ (v520 : IVec S16 32) (k0_hw1401 : k0_chk1401 v520), ∀ a x, ((![v520] : Fin 1 → IVec S16 32) a x).toNat < S100000.size a := fun v520 k0_hw1401 => k0_hw1401
def k0_off1620 (k0_t132 : Fin k0_t132_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1402 (v527 : IVec S16 32) : Prop :=
  (∀ a x, ((![v527] : Fin 1 → IVec S16 32) a x).toNat < S100000.size a)
instance k0_chk1402.dec : ∀ (v527 : IVec S16 32), Decidable (k0_chk1402 v527) := fun v527 => decidable_of_iff' _ (Iff.of_eq (k0_chk1402.eq_1 v527))
theorem k0_idx1402_inb : ∀ (v527 : IVec S16 32) (k0_hw1402 : k0_chk1402 v527), ∀ a x, ((![v527] : Fin 1 → IVec S16 32) a x).toNat < S100000.size a := fun v527 k0_hw1402 => k0_hw1402
def k0_off1621 (k0_t132 : Fin k0_t132_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1403 (v534 : IVec S16 32) : Prop :=
  (∀ a x, ((![v534] : Fin 1 → IVec S16 32) a x).toNat < S100000.size a)
instance k0_chk1403.dec : ∀ (v534 : IVec S16 32), Decidable (k0_chk1403 v534) := fun v534 => decidable_of_iff' _ (Iff.of_eq (k0_chk1403.eq_1 v534))
theorem k0_idx1403_inb : ∀ (v534 : IVec S16 32) (k0_hw1403 : k0_chk1403 v534), ∀ a x, ((![v534] : Fin 1 → IVec S16 32) a x).toNat < S100000.size a := fun v534 k0_hw1403 => k0_hw1403
def k0_off1622 (k0_t132 : Fin k0_t132_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1404 (v541 : IVec S16 32) : Prop :=
  (∀ a x, ((![v541] : Fin 1 → IVec S16 32) a x).toNat < S100000.size a)
instance k0_chk1404.dec : ∀ (v541 : IVec S16 32), Decidable (k0_chk1404 v541) := fun v541 => decidable_of_iff' _ (Iff.of_eq (k0_chk1404.eq_1 v541))
theorem k0_idx1404_inb : ∀ (v541 : IVec S16 32) (k0_hw1404 : k0_chk1404 v541), ∀ a x, ((![v541] : Fin 1 → IVec S16 32) a x).toNat < S100000.size a := fun v541 k0_hw1404 => k0_hw1404
def k0_off1623 (k0_t132 : Fin k0_t132_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1405 (v548 : IVec S16 32) : Prop :=
  (∀ a x, ((![v548] : Fin 1 → IVec S16 32) a x).toNat < S100000.size a)
instance k0_chk1405.dec : ∀ (v548 : IVec S16 32), Decidable (k0_chk1405 v548) := fun v548 => decidable_of_iff' _ (Iff.of_eq (k0_chk1405.eq_1 v548))
theorem k0_idx1405_inb : ∀ (v548 : IVec S16 32) (k0_hw1405 : k0_chk1405 v548), ∀ a x, ((![v548] : Fin 1 → IVec S16 32) a x).toNat < S100000.size a := fun v548 k0_hw1405 => k0_hw1405
def k0_off1624 (k0_t132 : Fin k0_t132_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1406 (v555 : IVec S16 32) : Prop :=
  (∀ a x, ((![v555] : Fin 1 → IVec S16 32) a x).toNat < S100000.size a)
instance k0_chk1406.dec : ∀ (v555 : IVec S16 32), Decidable (k0_chk1406 v555) := fun v555 => decidable_of_iff' _ (Iff.of_eq (k0_chk1406.eq_1 v555))
theorem k0_idx1406_inb : ∀ (v555 : IVec S16 32) (k0_hw1406 : k0_chk1406 v555), ∀ a x, ((![v555] : Fin 1 → IVec S16 32) a x).toNat < S100000.size a := fun v555 k0_hw1406 => k0_hw1406
def k0_off1625 (k0_t132 : Fin k0_t132_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1407 (v562 : IVec S16 32) : Prop :=
  (∀ a x, ((![v562] : Fin 1 → IVec S16 32) a x).toNat < S100000.size a)
instance k0_chk1407.dec : ∀ (v562 : IVec S16 32), Decidable (k0_chk1407 v562) := fun v562 => decidable_of_iff' _ (Iff.of_eq (k0_chk1407.eq_1 v562))
theorem k0_idx1407_inb : ∀ (v562 : IVec S16 32) (k0_hw1407 : k0_chk1407 v562), ∀ a x, ((![v562] : Fin 1 → IVec S16 32) a x).toNat < S100000.size a := fun v562 k0_hw1407 => k0_hw1407
def k0_off1626 (k0_t132 : Fin k0_t132_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1408 (v569 : IVec S16 32) : Prop :=
  (∀ a x, ((![v569] : Fin 1 → IVec S16 32) a x).toNat < S100000.size a)
instance k0_chk1408.dec : ∀ (v569 : IVec S16 32), Decidable (k0_chk1408 v569) := fun v569 => decidable_of_iff' _ (Iff.of_eq (k0_chk1408.eq_1 v569))
theorem k0_idx1408_inb : ∀ (v569 : IVec S16 32) (k0_hw1408 : k0_chk1408 v569), ∀ a x, ((![v569] : Fin 1 → IVec S16 32) a x).toNat < S100000.size a := fun v569 k0_hw1408 => k0_hw1408
def k0_off1627 (k0_t132 : Fin k0_t132_loop.trips) : Fin 1 → Nat :=
  let c0_i32_281 : BitVec 32 := 0#32
  let c1_i32_283 : BitVec 32 := 1#32
  let arg36 : BitVec 32 := Scf.iv c0_i32_281 c1_i32_283 k0_t132
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1628 (i : grid0.Coords) (k0_t130 : Fin (k0_t130_loop i).trips) : Fin 2 → Nat :=
  let c756_i32_285 : BitVec 32 := 756#32
  let c36_i32_225 : BitVec 32 := 36#32
  let c0_i32_224 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c756_i32 : BitVec 32 := 756#32
  let v375 : BitVec 32 := Scalar.subi v19 c756_i32
  let v376 : BitVec 32 := Scalar.maxsi c0_i32_224 v375
  let v377 : BitVec 32 := Scalar.minsi c36_i32_225 v376
  let c36_i32_228 : BitVec 32 := 36#32
  let c0_i32_227 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c756_i32_226 : BitVec 32 := 756#32
  let v378 : BitVec 32 := Scalar.subi v38 c756_i32_226
  let v379 : BitVec 32 := Scalar.maxsi c0_i32_227 v378
  let v380 : BitVec 32 := Scalar.minsi c36_i32_228 v379
  let v384 : BitVec 32 := Scalar.subi v380 v377
  let c1_i32_231 : BitVec 32 := 1#32
  let v386 : BitVec 32 := Scalar.divsi v384 c1_i32_231
  let v387 : BitVec 32 := Scalar.muli v386 c1_i32_231
  let v388 : BitVec 32 := Scalar.addi v377 v387
  let c1_i32_233 : BitVec 32 := 1#32
  let arg34 : BitVec 32 := Scf.iv v388 c1_i32_233 k0_t130
  let v460 : BitVec 32 := Scalar.addi c756_i32_285 arg34
  let c8192_i32_r175 : BitVec 32 := 8192#32
  ![v460.toNat, 8192]
@[reducible] def k0_t133_loop (i : grid0.Coords) : Scf.Loop 32 :=
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c36_i32_238 : BitVec 32 := 36#32
  let c0_i32_237 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c792_i32_236 : BitVec 32 := 792#32
  let v394 : BitVec 32 := Scalar.subi v38 c792_i32_236
  let v395 : BitVec 32 := Scalar.maxsi c0_i32_237 v394
  let v396 : BitVec 32 := Scalar.minsi c36_i32_238 v395
  let v400 : BitVec 32 := Scalar.subi v396 v393
  let c1_i32_241 : BitVec 32 := 1#32
  let v402 : BitVec 32 := Scalar.divsi v400 c1_i32_241
  let v403 : BitVec 32 := Scalar.muli v402 c1_i32_241
  let v404 : BitVec 32 := Scalar.addi v393 v403
  let c1_i32_242 : BitVec 32 := 1#32
  ⟨v393, v404, c1_i32_242⟩
def k0_off1629 (i : grid0.Coords) (k0_t133 : Fin (k0_t133_loop i).trips) : Fin 2 → Nat :=
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c1_i32_242 : BitVec 32 := 1#32
  let arg34 : BitVec 32 := Scf.iv v393 c1_i32_242 k0_t133
  let c0_i32_287_r178 : BitVec 32 := 0#32
  ![arg34.toNat, 0]
@[reducible] def k0_t134_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1630 (k0_t134 : Fin k0_t134_loop.trips) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1409 (v464 : IVec S16 32) : Prop :=
  (∀ a x, ((![v464] : Fin 1 → IVec S16 32) a x).toNat < S100000.size a)
instance k0_chk1409.dec : ∀ (v464 : IVec S16 32), Decidable (k0_chk1409 v464) := fun v464 => decidable_of_iff' _ (Iff.of_eq (k0_chk1409.eq_1 v464))
theorem k0_idx1409_inb : ∀ (v464 : IVec S16 32) (k0_hw1409 : k0_chk1409 v464), ∀ a x, ((![v464] : Fin 1 → IVec S16 32) a x).toNat < S100000.size a := fun v464 k0_hw1409 => k0_hw1409
def k0_off1631 (k0_t134 : Fin k0_t134_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1410 (v471 : IVec S16 32) : Prop :=
  (∀ a x, ((![v471] : Fin 1 → IVec S16 32) a x).toNat < S100000.size a)
instance k0_chk1410.dec : ∀ (v471 : IVec S16 32), Decidable (k0_chk1410 v471) := fun v471 => decidable_of_iff' _ (Iff.of_eq (k0_chk1410.eq_1 v471))
theorem k0_idx1410_inb : ∀ (v471 : IVec S16 32) (k0_hw1410 : k0_chk1410 v471), ∀ a x, ((![v471] : Fin 1 → IVec S16 32) a x).toNat < S100000.size a := fun v471 k0_hw1410 => k0_hw1410
def k0_off1632 (k0_t134 : Fin k0_t134_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1411 (v478 : IVec S16 32) : Prop :=
  (∀ a x, ((![v478] : Fin 1 → IVec S16 32) a x).toNat < S100000.size a)
instance k0_chk1411.dec : ∀ (v478 : IVec S16 32), Decidable (k0_chk1411 v478) := fun v478 => decidable_of_iff' _ (Iff.of_eq (k0_chk1411.eq_1 v478))
theorem k0_idx1411_inb : ∀ (v478 : IVec S16 32) (k0_hw1411 : k0_chk1411 v478), ∀ a x, ((![v478] : Fin 1 → IVec S16 32) a x).toNat < S100000.size a := fun v478 k0_hw1411 => k0_hw1411
def k0_off1633 (k0_t134 : Fin k0_t134_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1412 (v485 : IVec S16 32) : Prop :=
  (∀ a x, ((![v485] : Fin 1 → IVec S16 32) a x).toNat < S100000.size a)
instance k0_chk1412.dec : ∀ (v485 : IVec S16 32), Decidable (k0_chk1412 v485) := fun v485 => decidable_of_iff' _ (Iff.of_eq (k0_chk1412.eq_1 v485))
theorem k0_idx1412_inb : ∀ (v485 : IVec S16 32) (k0_hw1412 : k0_chk1412 v485), ∀ a x, ((![v485] : Fin 1 → IVec S16 32) a x).toNat < S100000.size a := fun v485 k0_hw1412 => k0_hw1412
def k0_off1634 (k0_t134 : Fin k0_t134_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1413 (v492 : IVec S16 32) : Prop :=
  (∀ a x, ((![v492] : Fin 1 → IVec S16 32) a x).toNat < S100000.size a)
instance k0_chk1413.dec : ∀ (v492 : IVec S16 32), Decidable (k0_chk1413 v492) := fun v492 => decidable_of_iff' _ (Iff.of_eq (k0_chk1413.eq_1 v492))
theorem k0_idx1413_inb : ∀ (v492 : IVec S16 32) (k0_hw1413 : k0_chk1413 v492), ∀ a x, ((![v492] : Fin 1 → IVec S16 32) a x).toNat < S100000.size a := fun v492 k0_hw1413 => k0_hw1413
def k0_off1635 (k0_t134 : Fin k0_t134_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1414 (v499 : IVec S16 32) : Prop :=
  (∀ a x, ((![v499] : Fin 1 → IVec S16 32) a x).toNat < S100000.size a)
instance k0_chk1414.dec : ∀ (v499 : IVec S16 32), Decidable (k0_chk1414 v499) := fun v499 => decidable_of_iff' _ (Iff.of_eq (k0_chk1414.eq_1 v499))
theorem k0_idx1414_inb : ∀ (v499 : IVec S16 32) (k0_hw1414 : k0_chk1414 v499), ∀ a x, ((![v499] : Fin 1 → IVec S16 32) a x).toNat < S100000.size a := fun v499 k0_hw1414 => k0_hw1414
def k0_off1636 (k0_t134 : Fin k0_t134_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1415 (v506 : IVec S16 32) : Prop :=
  (∀ a x, ((![v506] : Fin 1 → IVec S16 32) a x).toNat < S100000.size a)
instance k0_chk1415.dec : ∀ (v506 : IVec S16 32), Decidable (k0_chk1415 v506) := fun v506 => decidable_of_iff' _ (Iff.of_eq (k0_chk1415.eq_1 v506))
theorem k0_idx1415_inb : ∀ (v506 : IVec S16 32) (k0_hw1415 : k0_chk1415 v506), ∀ a x, ((![v506] : Fin 1 → IVec S16 32) a x).toNat < S100000.size a := fun v506 k0_hw1415 => k0_hw1415
def k0_off1637 (k0_t134 : Fin k0_t134_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1416 (v513 : IVec S16 32) : Prop :=
  (∀ a x, ((![v513] : Fin 1 → IVec S16 32) a x).toNat < S100000.size a)
instance k0_chk1416.dec : ∀ (v513 : IVec S16 32), Decidable (k0_chk1416 v513) := fun v513 => decidable_of_iff' _ (Iff.of_eq (k0_chk1416.eq_1 v513))
theorem k0_idx1416_inb : ∀ (v513 : IVec S16 32) (k0_hw1416 : k0_chk1416 v513), ∀ a x, ((![v513] : Fin 1 → IVec S16 32) a x).toNat < S100000.size a := fun v513 k0_hw1416 => k0_hw1416
def k0_off1638 (k0_t134 : Fin k0_t134_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1417 (v520 : IVec S16 32) : Prop :=
  (∀ a x, ((![v520] : Fin 1 → IVec S16 32) a x).toNat < S100000.size a)
instance k0_chk1417.dec : ∀ (v520 : IVec S16 32), Decidable (k0_chk1417 v520) := fun v520 => decidable_of_iff' _ (Iff.of_eq (k0_chk1417.eq_1 v520))
theorem k0_idx1417_inb : ∀ (v520 : IVec S16 32) (k0_hw1417 : k0_chk1417 v520), ∀ a x, ((![v520] : Fin 1 → IVec S16 32) a x).toNat < S100000.size a := fun v520 k0_hw1417 => k0_hw1417
def k0_off1639 (k0_t134 : Fin k0_t134_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1418 (v527 : IVec S16 32) : Prop :=
  (∀ a x, ((![v527] : Fin 1 → IVec S16 32) a x).toNat < S100000.size a)
instance k0_chk1418.dec : ∀ (v527 : IVec S16 32), Decidable (k0_chk1418 v527) := fun v527 => decidable_of_iff' _ (Iff.of_eq (k0_chk1418.eq_1 v527))
theorem k0_idx1418_inb : ∀ (v527 : IVec S16 32) (k0_hw1418 : k0_chk1418 v527), ∀ a x, ((![v527] : Fin 1 → IVec S16 32) a x).toNat < S100000.size a := fun v527 k0_hw1418 => k0_hw1418
def k0_off1640 (k0_t134 : Fin k0_t134_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1419 (v534 : IVec S16 32) : Prop :=
  (∀ a x, ((![v534] : Fin 1 → IVec S16 32) a x).toNat < S100000.size a)
instance k0_chk1419.dec : ∀ (v534 : IVec S16 32), Decidable (k0_chk1419 v534) := fun v534 => decidable_of_iff' _ (Iff.of_eq (k0_chk1419.eq_1 v534))
theorem k0_idx1419_inb : ∀ (v534 : IVec S16 32) (k0_hw1419 : k0_chk1419 v534), ∀ a x, ((![v534] : Fin 1 → IVec S16 32) a x).toNat < S100000.size a := fun v534 k0_hw1419 => k0_hw1419
def k0_off1641 (k0_t134 : Fin k0_t134_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1420 (v541 : IVec S16 32) : Prop :=
  (∀ a x, ((![v541] : Fin 1 → IVec S16 32) a x).toNat < S100000.size a)
instance k0_chk1420.dec : ∀ (v541 : IVec S16 32), Decidable (k0_chk1420 v541) := fun v541 => decidable_of_iff' _ (Iff.of_eq (k0_chk1420.eq_1 v541))
theorem k0_idx1420_inb : ∀ (v541 : IVec S16 32) (k0_hw1420 : k0_chk1420 v541), ∀ a x, ((![v541] : Fin 1 → IVec S16 32) a x).toNat < S100000.size a := fun v541 k0_hw1420 => k0_hw1420
def k0_off1642 (k0_t134 : Fin k0_t134_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1421 (v548 : IVec S16 32) : Prop :=
  (∀ a x, ((![v548] : Fin 1 → IVec S16 32) a x).toNat < S100000.size a)
instance k0_chk1421.dec : ∀ (v548 : IVec S16 32), Decidable (k0_chk1421 v548) := fun v548 => decidable_of_iff' _ (Iff.of_eq (k0_chk1421.eq_1 v548))
theorem k0_idx1421_inb : ∀ (v548 : IVec S16 32) (k0_hw1421 : k0_chk1421 v548), ∀ a x, ((![v548] : Fin 1 → IVec S16 32) a x).toNat < S100000.size a := fun v548 k0_hw1421 => k0_hw1421
def k0_off1643 (k0_t134 : Fin k0_t134_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1422 (v555 : IVec S16 32) : Prop :=
  (∀ a x, ((![v555] : Fin 1 → IVec S16 32) a x).toNat < S100000.size a)
instance k0_chk1422.dec : ∀ (v555 : IVec S16 32), Decidable (k0_chk1422 v555) := fun v555 => decidable_of_iff' _ (Iff.of_eq (k0_chk1422.eq_1 v555))
theorem k0_idx1422_inb : ∀ (v555 : IVec S16 32) (k0_hw1422 : k0_chk1422 v555), ∀ a x, ((![v555] : Fin 1 → IVec S16 32) a x).toNat < S100000.size a := fun v555 k0_hw1422 => k0_hw1422
def k0_off1644 (k0_t134 : Fin k0_t134_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1423 (v562 : IVec S16 32) : Prop :=
  (∀ a x, ((![v562] : Fin 1 → IVec S16 32) a x).toNat < S100000.size a)
instance k0_chk1423.dec : ∀ (v562 : IVec S16 32), Decidable (k0_chk1423 v562) := fun v562 => decidable_of_iff' _ (Iff.of_eq (k0_chk1423.eq_1 v562))
theorem k0_idx1423_inb : ∀ (v562 : IVec S16 32) (k0_hw1423 : k0_chk1423 v562), ∀ a x, ((![v562] : Fin 1 → IVec S16 32) a x).toNat < S100000.size a := fun v562 k0_hw1423 => k0_hw1423
def k0_off1645 (k0_t134 : Fin k0_t134_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1424 (v569 : IVec S16 32) : Prop :=
  (∀ a x, ((![v569] : Fin 1 → IVec S16 32) a x).toNat < S100000.size a)
instance k0_chk1424.dec : ∀ (v569 : IVec S16 32), Decidable (k0_chk1424 v569) := fun v569 => decidable_of_iff' _ (Iff.of_eq (k0_chk1424.eq_1 v569))
theorem k0_idx1424_inb : ∀ (v569 : IVec S16 32) (k0_hw1424 : k0_chk1424 v569), ∀ a x, ((![v569] : Fin 1 → IVec S16 32) a x).toNat < S100000.size a := fun v569 k0_hw1424 => k0_hw1424
def k0_off1646 (k0_t134 : Fin k0_t134_loop.trips) : Fin 1 → Nat :=
  let c0_i32_275 : BitVec 32 := 0#32
  let c1_i32_277 : BitVec 32 := 1#32
  let arg36 : BitVec 32 := Scf.iv c0_i32_275 c1_i32_277 k0_t134
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1647 (i : grid0.Coords) (k0_t133 : Fin (k0_t133_loop i).trips) : Fin 2 → Nat :=
  let c792_i32_279 : BitVec 32 := 792#32
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c1_i32_242 : BitVec 32 := 1#32
  let arg34 : BitVec 32 := Scf.iv v393 c1_i32_242 k0_t133
  let v457 : BitVec 32 := Scalar.addi c792_i32_279 arg34
  let c0_i32_287_r179 : BitVec 32 := 0#32
  ![v457.toNat, 0]
@[reducible] def k0_t135_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1648 (k0_t135 : Fin k0_t135_loop.trips) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1425 (v464 : IVec S16 32) : Prop :=
  (∀ a x, ((![v464] : Fin 1 → IVec S16 32) a x).toNat < S100000.size a)
instance k0_chk1425.dec : ∀ (v464 : IVec S16 32), Decidable (k0_chk1425 v464) := fun v464 => decidable_of_iff' _ (Iff.of_eq (k0_chk1425.eq_1 v464))
theorem k0_idx1425_inb : ∀ (v464 : IVec S16 32) (k0_hw1425 : k0_chk1425 v464), ∀ a x, ((![v464] : Fin 1 → IVec S16 32) a x).toNat < S100000.size a := fun v464 k0_hw1425 => k0_hw1425
def k0_off1649 (k0_t135 : Fin k0_t135_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1426 (v471 : IVec S16 32) : Prop :=
  (∀ a x, ((![v471] : Fin 1 → IVec S16 32) a x).toNat < S100000.size a)
instance k0_chk1426.dec : ∀ (v471 : IVec S16 32), Decidable (k0_chk1426 v471) := fun v471 => decidable_of_iff' _ (Iff.of_eq (k0_chk1426.eq_1 v471))
theorem k0_idx1426_inb : ∀ (v471 : IVec S16 32) (k0_hw1426 : k0_chk1426 v471), ∀ a x, ((![v471] : Fin 1 → IVec S16 32) a x).toNat < S100000.size a := fun v471 k0_hw1426 => k0_hw1426
def k0_off1650 (k0_t135 : Fin k0_t135_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1427 (v478 : IVec S16 32) : Prop :=
  (∀ a x, ((![v478] : Fin 1 → IVec S16 32) a x).toNat < S100000.size a)
instance k0_chk1427.dec : ∀ (v478 : IVec S16 32), Decidable (k0_chk1427 v478) := fun v478 => decidable_of_iff' _ (Iff.of_eq (k0_chk1427.eq_1 v478))
theorem k0_idx1427_inb : ∀ (v478 : IVec S16 32) (k0_hw1427 : k0_chk1427 v478), ∀ a x, ((![v478] : Fin 1 → IVec S16 32) a x).toNat < S100000.size a := fun v478 k0_hw1427 => k0_hw1427
def k0_off1651 (k0_t135 : Fin k0_t135_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1428 (v485 : IVec S16 32) : Prop :=
  (∀ a x, ((![v485] : Fin 1 → IVec S16 32) a x).toNat < S100000.size a)
instance k0_chk1428.dec : ∀ (v485 : IVec S16 32), Decidable (k0_chk1428 v485) := fun v485 => decidable_of_iff' _ (Iff.of_eq (k0_chk1428.eq_1 v485))
theorem k0_idx1428_inb : ∀ (v485 : IVec S16 32) (k0_hw1428 : k0_chk1428 v485), ∀ a x, ((![v485] : Fin 1 → IVec S16 32) a x).toNat < S100000.size a := fun v485 k0_hw1428 => k0_hw1428
def k0_off1652 (k0_t135 : Fin k0_t135_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1429 (v492 : IVec S16 32) : Prop :=
  (∀ a x, ((![v492] : Fin 1 → IVec S16 32) a x).toNat < S100000.size a)
instance k0_chk1429.dec : ∀ (v492 : IVec S16 32), Decidable (k0_chk1429 v492) := fun v492 => decidable_of_iff' _ (Iff.of_eq (k0_chk1429.eq_1 v492))
theorem k0_idx1429_inb : ∀ (v492 : IVec S16 32) (k0_hw1429 : k0_chk1429 v492), ∀ a x, ((![v492] : Fin 1 → IVec S16 32) a x).toNat < S100000.size a := fun v492 k0_hw1429 => k0_hw1429
def k0_off1653 (k0_t135 : Fin k0_t135_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1430 (v499 : IVec S16 32) : Prop :=
  (∀ a x, ((![v499] : Fin 1 → IVec S16 32) a x).toNat < S100000.size a)
instance k0_chk1430.dec : ∀ (v499 : IVec S16 32), Decidable (k0_chk1430 v499) := fun v499 => decidable_of_iff' _ (Iff.of_eq (k0_chk1430.eq_1 v499))
theorem k0_idx1430_inb : ∀ (v499 : IVec S16 32) (k0_hw1430 : k0_chk1430 v499), ∀ a x, ((![v499] : Fin 1 → IVec S16 32) a x).toNat < S100000.size a := fun v499 k0_hw1430 => k0_hw1430
def k0_off1654 (k0_t135 : Fin k0_t135_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1431 (v506 : IVec S16 32) : Prop :=
  (∀ a x, ((![v506] : Fin 1 → IVec S16 32) a x).toNat < S100000.size a)
instance k0_chk1431.dec : ∀ (v506 : IVec S16 32), Decidable (k0_chk1431 v506) := fun v506 => decidable_of_iff' _ (Iff.of_eq (k0_chk1431.eq_1 v506))
theorem k0_idx1431_inb : ∀ (v506 : IVec S16 32) (k0_hw1431 : k0_chk1431 v506), ∀ a x, ((![v506] : Fin 1 → IVec S16 32) a x).toNat < S100000.size a := fun v506 k0_hw1431 => k0_hw1431
def k0_off1655 (k0_t135 : Fin k0_t135_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1432 (v513 : IVec S16 32) : Prop :=
  (∀ a x, ((![v513] : Fin 1 → IVec S16 32) a x).toNat < S100000.size a)
instance k0_chk1432.dec : ∀ (v513 : IVec S16 32), Decidable (k0_chk1432 v513) := fun v513 => decidable_of_iff' _ (Iff.of_eq (k0_chk1432.eq_1 v513))
theorem k0_idx1432_inb : ∀ (v513 : IVec S16 32) (k0_hw1432 : k0_chk1432 v513), ∀ a x, ((![v513] : Fin 1 → IVec S16 32) a x).toNat < S100000.size a := fun v513 k0_hw1432 => k0_hw1432
def k0_off1656 (k0_t135 : Fin k0_t135_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1433 (v520 : IVec S16 32) : Prop :=
  (∀ a x, ((![v520] : Fin 1 → IVec S16 32) a x).toNat < S100000.size a)
instance k0_chk1433.dec : ∀ (v520 : IVec S16 32), Decidable (k0_chk1433 v520) := fun v520 => decidable_of_iff' _ (Iff.of_eq (k0_chk1433.eq_1 v520))
theorem k0_idx1433_inb : ∀ (v520 : IVec S16 32) (k0_hw1433 : k0_chk1433 v520), ∀ a x, ((![v520] : Fin 1 → IVec S16 32) a x).toNat < S100000.size a := fun v520 k0_hw1433 => k0_hw1433
def k0_off1657 (k0_t135 : Fin k0_t135_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1434 (v527 : IVec S16 32) : Prop :=
  (∀ a x, ((![v527] : Fin 1 → IVec S16 32) a x).toNat < S100000.size a)
instance k0_chk1434.dec : ∀ (v527 : IVec S16 32), Decidable (k0_chk1434 v527) := fun v527 => decidable_of_iff' _ (Iff.of_eq (k0_chk1434.eq_1 v527))
theorem k0_idx1434_inb : ∀ (v527 : IVec S16 32) (k0_hw1434 : k0_chk1434 v527), ∀ a x, ((![v527] : Fin 1 → IVec S16 32) a x).toNat < S100000.size a := fun v527 k0_hw1434 => k0_hw1434
def k0_off1658 (k0_t135 : Fin k0_t135_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1435 (v534 : IVec S16 32) : Prop :=
  (∀ a x, ((![v534] : Fin 1 → IVec S16 32) a x).toNat < S100000.size a)
instance k0_chk1435.dec : ∀ (v534 : IVec S16 32), Decidable (k0_chk1435 v534) := fun v534 => decidable_of_iff' _ (Iff.of_eq (k0_chk1435.eq_1 v534))
theorem k0_idx1435_inb : ∀ (v534 : IVec S16 32) (k0_hw1435 : k0_chk1435 v534), ∀ a x, ((![v534] : Fin 1 → IVec S16 32) a x).toNat < S100000.size a := fun v534 k0_hw1435 => k0_hw1435
def k0_off1659 (k0_t135 : Fin k0_t135_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1436 (v541 : IVec S16 32) : Prop :=
  (∀ a x, ((![v541] : Fin 1 → IVec S16 32) a x).toNat < S100000.size a)
instance k0_chk1436.dec : ∀ (v541 : IVec S16 32), Decidable (k0_chk1436 v541) := fun v541 => decidable_of_iff' _ (Iff.of_eq (k0_chk1436.eq_1 v541))
theorem k0_idx1436_inb : ∀ (v541 : IVec S16 32) (k0_hw1436 : k0_chk1436 v541), ∀ a x, ((![v541] : Fin 1 → IVec S16 32) a x).toNat < S100000.size a := fun v541 k0_hw1436 => k0_hw1436
def k0_off1660 (k0_t135 : Fin k0_t135_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1437 (v548 : IVec S16 32) : Prop :=
  (∀ a x, ((![v548] : Fin 1 → IVec S16 32) a x).toNat < S100000.size a)
instance k0_chk1437.dec : ∀ (v548 : IVec S16 32), Decidable (k0_chk1437 v548) := fun v548 => decidable_of_iff' _ (Iff.of_eq (k0_chk1437.eq_1 v548))
theorem k0_idx1437_inb : ∀ (v548 : IVec S16 32) (k0_hw1437 : k0_chk1437 v548), ∀ a x, ((![v548] : Fin 1 → IVec S16 32) a x).toNat < S100000.size a := fun v548 k0_hw1437 => k0_hw1437
def k0_off1661 (k0_t135 : Fin k0_t135_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1438 (v555 : IVec S16 32) : Prop :=
  (∀ a x, ((![v555] : Fin 1 → IVec S16 32) a x).toNat < S100000.size a)
instance k0_chk1438.dec : ∀ (v555 : IVec S16 32), Decidable (k0_chk1438 v555) := fun v555 => decidable_of_iff' _ (Iff.of_eq (k0_chk1438.eq_1 v555))
theorem k0_idx1438_inb : ∀ (v555 : IVec S16 32) (k0_hw1438 : k0_chk1438 v555), ∀ a x, ((![v555] : Fin 1 → IVec S16 32) a x).toNat < S100000.size a := fun v555 k0_hw1438 => k0_hw1438
def k0_off1662 (k0_t135 : Fin k0_t135_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1439 (v562 : IVec S16 32) : Prop :=
  (∀ a x, ((![v562] : Fin 1 → IVec S16 32) a x).toNat < S100000.size a)
instance k0_chk1439.dec : ∀ (v562 : IVec S16 32), Decidable (k0_chk1439 v562) := fun v562 => decidable_of_iff' _ (Iff.of_eq (k0_chk1439.eq_1 v562))
theorem k0_idx1439_inb : ∀ (v562 : IVec S16 32) (k0_hw1439 : k0_chk1439 v562), ∀ a x, ((![v562] : Fin 1 → IVec S16 32) a x).toNat < S100000.size a := fun v562 k0_hw1439 => k0_hw1439
def k0_off1663 (k0_t135 : Fin k0_t135_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1440 (v569 : IVec S16 32) : Prop :=
  (∀ a x, ((![v569] : Fin 1 → IVec S16 32) a x).toNat < S100000.size a)
instance k0_chk1440.dec : ∀ (v569 : IVec S16 32), Decidable (k0_chk1440 v569) := fun v569 => decidable_of_iff' _ (Iff.of_eq (k0_chk1440.eq_1 v569))
theorem k0_idx1440_inb : ∀ (v569 : IVec S16 32) (k0_hw1440 : k0_chk1440 v569), ∀ a x, ((![v569] : Fin 1 → IVec S16 32) a x).toNat < S100000.size a := fun v569 k0_hw1440 => k0_hw1440
def k0_off1664 (k0_t135 : Fin k0_t135_loop.trips) : Fin 1 → Nat :=
  let c0_i32_281 : BitVec 32 := 0#32
  let c1_i32_283 : BitVec 32 := 1#32
  let arg36 : BitVec 32 := Scf.iv c0_i32_281 c1_i32_283 k0_t135
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1665 (i : grid0.Coords) (k0_t133 : Fin (k0_t133_loop i).trips) : Fin 2 → Nat :=
  let c792_i32_285 : BitVec 32 := 792#32
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c1_i32_242 : BitVec 32 := 1#32
  let arg34 : BitVec 32 := Scf.iv v393 c1_i32_242 k0_t133
  let v460 : BitVec 32 := Scalar.addi c792_i32_285 arg34
  let c8192_i32_r180 : BitVec 32 := 8192#32
  ![v460.toNat, 8192]
@[reducible] def k0_t136_loop (i : grid0.Coords) : Scf.Loop 32 :=
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c36_i32_238 : BitVec 32 := 36#32
  let c0_i32_237 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c792_i32_236 : BitVec 32 := 792#32
  let v394 : BitVec 32 := Scalar.subi v38 c792_i32_236
  let v395 : BitVec 32 := Scalar.maxsi c0_i32_237 v394
  let v396 : BitVec 32 := Scalar.minsi c36_i32_238 v395
  let v400 : BitVec 32 := Scalar.subi v396 v393
  let c1_i32_241 : BitVec 32 := 1#32
  let v402 : BitVec 32 := Scalar.divsi v400 c1_i32_241
  let v403 : BitVec 32 := Scalar.muli v402 c1_i32_241
  let v404 : BitVec 32 := Scalar.addi v393 v403
  let v401 : BitVec 32 := Scalar.addi v393 v400
  let c1_i32_243 : BitVec 32 := 1#32
  ⟨v404, v401, c1_i32_243⟩
def k0_off1666 (i : grid0.Coords) (k0_t136 : Fin (k0_t136_loop i).trips) : Fin 2 → Nat :=
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c36_i32_238 : BitVec 32 := 36#32
  let c0_i32_237 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c792_i32_236 : BitVec 32 := 792#32
  let v394 : BitVec 32 := Scalar.subi v38 c792_i32_236
  let v395 : BitVec 32 := Scalar.maxsi c0_i32_237 v394
  let v396 : BitVec 32 := Scalar.minsi c36_i32_238 v395
  let v400 : BitVec 32 := Scalar.subi v396 v393
  let c1_i32_241 : BitVec 32 := 1#32
  let v402 : BitVec 32 := Scalar.divsi v400 c1_i32_241
  let v403 : BitVec 32 := Scalar.muli v402 c1_i32_241
  let v404 : BitVec 32 := Scalar.addi v393 v403
  let c1_i32_243 : BitVec 32 := 1#32
  let arg34 : BitVec 32 := Scf.iv v404 c1_i32_243 k0_t136
  let c0_i32_287_r181 : BitVec 32 := 0#32
  ![arg34.toNat, 0]
@[reducible] def k0_t137_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1667 (k0_t137 : Fin k0_t137_loop.trips) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1441 (v464 : IVec S16 32) : Prop :=
  (∀ a x, ((![v464] : Fin 1 → IVec S16 32) a x).toNat < S100000.size a)
instance k0_chk1441.dec : ∀ (v464 : IVec S16 32), Decidable (k0_chk1441 v464) := fun v464 => decidable_of_iff' _ (Iff.of_eq (k0_chk1441.eq_1 v464))
theorem k0_idx1441_inb : ∀ (v464 : IVec S16 32) (k0_hw1441 : k0_chk1441 v464), ∀ a x, ((![v464] : Fin 1 → IVec S16 32) a x).toNat < S100000.size a := fun v464 k0_hw1441 => k0_hw1441
def k0_off1668 (k0_t137 : Fin k0_t137_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1442 (v471 : IVec S16 32) : Prop :=
  (∀ a x, ((![v471] : Fin 1 → IVec S16 32) a x).toNat < S100000.size a)
instance k0_chk1442.dec : ∀ (v471 : IVec S16 32), Decidable (k0_chk1442 v471) := fun v471 => decidable_of_iff' _ (Iff.of_eq (k0_chk1442.eq_1 v471))
theorem k0_idx1442_inb : ∀ (v471 : IVec S16 32) (k0_hw1442 : k0_chk1442 v471), ∀ a x, ((![v471] : Fin 1 → IVec S16 32) a x).toNat < S100000.size a := fun v471 k0_hw1442 => k0_hw1442
def k0_off1669 (k0_t137 : Fin k0_t137_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1443 (v478 : IVec S16 32) : Prop :=
  (∀ a x, ((![v478] : Fin 1 → IVec S16 32) a x).toNat < S100000.size a)
instance k0_chk1443.dec : ∀ (v478 : IVec S16 32), Decidable (k0_chk1443 v478) := fun v478 => decidable_of_iff' _ (Iff.of_eq (k0_chk1443.eq_1 v478))
theorem k0_idx1443_inb : ∀ (v478 : IVec S16 32) (k0_hw1443 : k0_chk1443 v478), ∀ a x, ((![v478] : Fin 1 → IVec S16 32) a x).toNat < S100000.size a := fun v478 k0_hw1443 => k0_hw1443
def k0_off1670 (k0_t137 : Fin k0_t137_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1444 (v485 : IVec S16 32) : Prop :=
  (∀ a x, ((![v485] : Fin 1 → IVec S16 32) a x).toNat < S100000.size a)
instance k0_chk1444.dec : ∀ (v485 : IVec S16 32), Decidable (k0_chk1444 v485) := fun v485 => decidable_of_iff' _ (Iff.of_eq (k0_chk1444.eq_1 v485))
theorem k0_idx1444_inb : ∀ (v485 : IVec S16 32) (k0_hw1444 : k0_chk1444 v485), ∀ a x, ((![v485] : Fin 1 → IVec S16 32) a x).toNat < S100000.size a := fun v485 k0_hw1444 => k0_hw1444
def k0_off1671 (k0_t137 : Fin k0_t137_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1445 (v492 : IVec S16 32) : Prop :=
  (∀ a x, ((![v492] : Fin 1 → IVec S16 32) a x).toNat < S100000.size a)
instance k0_chk1445.dec : ∀ (v492 : IVec S16 32), Decidable (k0_chk1445 v492) := fun v492 => decidable_of_iff' _ (Iff.of_eq (k0_chk1445.eq_1 v492))
theorem k0_idx1445_inb : ∀ (v492 : IVec S16 32) (k0_hw1445 : k0_chk1445 v492), ∀ a x, ((![v492] : Fin 1 → IVec S16 32) a x).toNat < S100000.size a := fun v492 k0_hw1445 => k0_hw1445
def k0_off1672 (k0_t137 : Fin k0_t137_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1446 (v499 : IVec S16 32) : Prop :=
  (∀ a x, ((![v499] : Fin 1 → IVec S16 32) a x).toNat < S100000.size a)
instance k0_chk1446.dec : ∀ (v499 : IVec S16 32), Decidable (k0_chk1446 v499) := fun v499 => decidable_of_iff' _ (Iff.of_eq (k0_chk1446.eq_1 v499))
theorem k0_idx1446_inb : ∀ (v499 : IVec S16 32) (k0_hw1446 : k0_chk1446 v499), ∀ a x, ((![v499] : Fin 1 → IVec S16 32) a x).toNat < S100000.size a := fun v499 k0_hw1446 => k0_hw1446
def k0_off1673 (k0_t137 : Fin k0_t137_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1447 (v506 : IVec S16 32) : Prop :=
  (∀ a x, ((![v506] : Fin 1 → IVec S16 32) a x).toNat < S100000.size a)
instance k0_chk1447.dec : ∀ (v506 : IVec S16 32), Decidable (k0_chk1447 v506) := fun v506 => decidable_of_iff' _ (Iff.of_eq (k0_chk1447.eq_1 v506))
theorem k0_idx1447_inb : ∀ (v506 : IVec S16 32) (k0_hw1447 : k0_chk1447 v506), ∀ a x, ((![v506] : Fin 1 → IVec S16 32) a x).toNat < S100000.size a := fun v506 k0_hw1447 => k0_hw1447
def k0_off1674 (k0_t137 : Fin k0_t137_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1448 (v513 : IVec S16 32) : Prop :=
  (∀ a x, ((![v513] : Fin 1 → IVec S16 32) a x).toNat < S100000.size a)
instance k0_chk1448.dec : ∀ (v513 : IVec S16 32), Decidable (k0_chk1448 v513) := fun v513 => decidable_of_iff' _ (Iff.of_eq (k0_chk1448.eq_1 v513))
theorem k0_idx1448_inb : ∀ (v513 : IVec S16 32) (k0_hw1448 : k0_chk1448 v513), ∀ a x, ((![v513] : Fin 1 → IVec S16 32) a x).toNat < S100000.size a := fun v513 k0_hw1448 => k0_hw1448
def k0_off1675 (k0_t137 : Fin k0_t137_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1449 (v520 : IVec S16 32) : Prop :=
  (∀ a x, ((![v520] : Fin 1 → IVec S16 32) a x).toNat < S100000.size a)
instance k0_chk1449.dec : ∀ (v520 : IVec S16 32), Decidable (k0_chk1449 v520) := fun v520 => decidable_of_iff' _ (Iff.of_eq (k0_chk1449.eq_1 v520))
theorem k0_idx1449_inb : ∀ (v520 : IVec S16 32) (k0_hw1449 : k0_chk1449 v520), ∀ a x, ((![v520] : Fin 1 → IVec S16 32) a x).toNat < S100000.size a := fun v520 k0_hw1449 => k0_hw1449
def k0_off1676 (k0_t137 : Fin k0_t137_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1450 (v527 : IVec S16 32) : Prop :=
  (∀ a x, ((![v527] : Fin 1 → IVec S16 32) a x).toNat < S100000.size a)
instance k0_chk1450.dec : ∀ (v527 : IVec S16 32), Decidable (k0_chk1450 v527) := fun v527 => decidable_of_iff' _ (Iff.of_eq (k0_chk1450.eq_1 v527))
theorem k0_idx1450_inb : ∀ (v527 : IVec S16 32) (k0_hw1450 : k0_chk1450 v527), ∀ a x, ((![v527] : Fin 1 → IVec S16 32) a x).toNat < S100000.size a := fun v527 k0_hw1450 => k0_hw1450
def k0_off1677 (k0_t137 : Fin k0_t137_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1451 (v534 : IVec S16 32) : Prop :=
  (∀ a x, ((![v534] : Fin 1 → IVec S16 32) a x).toNat < S100000.size a)
instance k0_chk1451.dec : ∀ (v534 : IVec S16 32), Decidable (k0_chk1451 v534) := fun v534 => decidable_of_iff' _ (Iff.of_eq (k0_chk1451.eq_1 v534))
theorem k0_idx1451_inb : ∀ (v534 : IVec S16 32) (k0_hw1451 : k0_chk1451 v534), ∀ a x, ((![v534] : Fin 1 → IVec S16 32) a x).toNat < S100000.size a := fun v534 k0_hw1451 => k0_hw1451
def k0_off1678 (k0_t137 : Fin k0_t137_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1452 (v541 : IVec S16 32) : Prop :=
  (∀ a x, ((![v541] : Fin 1 → IVec S16 32) a x).toNat < S100000.size a)
instance k0_chk1452.dec : ∀ (v541 : IVec S16 32), Decidable (k0_chk1452 v541) := fun v541 => decidable_of_iff' _ (Iff.of_eq (k0_chk1452.eq_1 v541))
theorem k0_idx1452_inb : ∀ (v541 : IVec S16 32) (k0_hw1452 : k0_chk1452 v541), ∀ a x, ((![v541] : Fin 1 → IVec S16 32) a x).toNat < S100000.size a := fun v541 k0_hw1452 => k0_hw1452
def k0_off1679 (k0_t137 : Fin k0_t137_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1453 (v548 : IVec S16 32) : Prop :=
  (∀ a x, ((![v548] : Fin 1 → IVec S16 32) a x).toNat < S100000.size a)
instance k0_chk1453.dec : ∀ (v548 : IVec S16 32), Decidable (k0_chk1453 v548) := fun v548 => decidable_of_iff' _ (Iff.of_eq (k0_chk1453.eq_1 v548))
theorem k0_idx1453_inb : ∀ (v548 : IVec S16 32) (k0_hw1453 : k0_chk1453 v548), ∀ a x, ((![v548] : Fin 1 → IVec S16 32) a x).toNat < S100000.size a := fun v548 k0_hw1453 => k0_hw1453
def k0_off1680 (k0_t137 : Fin k0_t137_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1454 (v555 : IVec S16 32) : Prop :=
  (∀ a x, ((![v555] : Fin 1 → IVec S16 32) a x).toNat < S100000.size a)
instance k0_chk1454.dec : ∀ (v555 : IVec S16 32), Decidable (k0_chk1454 v555) := fun v555 => decidable_of_iff' _ (Iff.of_eq (k0_chk1454.eq_1 v555))
theorem k0_idx1454_inb : ∀ (v555 : IVec S16 32) (k0_hw1454 : k0_chk1454 v555), ∀ a x, ((![v555] : Fin 1 → IVec S16 32) a x).toNat < S100000.size a := fun v555 k0_hw1454 => k0_hw1454
def k0_off1681 (k0_t137 : Fin k0_t137_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1455 (v562 : IVec S16 32) : Prop :=
  (∀ a x, ((![v562] : Fin 1 → IVec S16 32) a x).toNat < S100000.size a)
instance k0_chk1455.dec : ∀ (v562 : IVec S16 32), Decidable (k0_chk1455 v562) := fun v562 => decidable_of_iff' _ (Iff.of_eq (k0_chk1455.eq_1 v562))
theorem k0_idx1455_inb : ∀ (v562 : IVec S16 32) (k0_hw1455 : k0_chk1455 v562), ∀ a x, ((![v562] : Fin 1 → IVec S16 32) a x).toNat < S100000.size a := fun v562 k0_hw1455 => k0_hw1455
def k0_off1682 (k0_t137 : Fin k0_t137_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1456 (v569 : IVec S16 32) : Prop :=
  (∀ a x, ((![v569] : Fin 1 → IVec S16 32) a x).toNat < S100000.size a)
instance k0_chk1456.dec : ∀ (v569 : IVec S16 32), Decidable (k0_chk1456 v569) := fun v569 => decidable_of_iff' _ (Iff.of_eq (k0_chk1456.eq_1 v569))
theorem k0_idx1456_inb : ∀ (v569 : IVec S16 32) (k0_hw1456 : k0_chk1456 v569), ∀ a x, ((![v569] : Fin 1 → IVec S16 32) a x).toNat < S100000.size a := fun v569 k0_hw1456 => k0_hw1456
def k0_off1683 (k0_t137 : Fin k0_t137_loop.trips) : Fin 1 → Nat :=
  let c0_i32_275 : BitVec 32 := 0#32
  let c1_i32_277 : BitVec 32 := 1#32
  let arg36 : BitVec 32 := Scf.iv c0_i32_275 c1_i32_277 k0_t137
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1684 (i : grid0.Coords) (k0_t136 : Fin (k0_t136_loop i).trips) : Fin 2 → Nat :=
  let c792_i32_279 : BitVec 32 := 792#32
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c36_i32_238 : BitVec 32 := 36#32
  let c0_i32_237 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c792_i32_236 : BitVec 32 := 792#32
  let v394 : BitVec 32 := Scalar.subi v38 c792_i32_236
  let v395 : BitVec 32 := Scalar.maxsi c0_i32_237 v394
  let v396 : BitVec 32 := Scalar.minsi c36_i32_238 v395
  let v400 : BitVec 32 := Scalar.subi v396 v393
  let c1_i32_241 : BitVec 32 := 1#32
  let v402 : BitVec 32 := Scalar.divsi v400 c1_i32_241
  let v403 : BitVec 32 := Scalar.muli v402 c1_i32_241
  let v404 : BitVec 32 := Scalar.addi v393 v403
  let c1_i32_243 : BitVec 32 := 1#32
  let arg34 : BitVec 32 := Scf.iv v404 c1_i32_243 k0_t136
  let v457 : BitVec 32 := Scalar.addi c792_i32_279 arg34
  let c0_i32_287_r182 : BitVec 32 := 0#32
  ![v457.toNat, 0]
@[reducible] def k0_t138_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1685 (k0_t138 : Fin k0_t138_loop.trips) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1457 (v464 : IVec S16 32) : Prop :=
  (∀ a x, ((![v464] : Fin 1 → IVec S16 32) a x).toNat < S100000.size a)
instance k0_chk1457.dec : ∀ (v464 : IVec S16 32), Decidable (k0_chk1457 v464) := fun v464 => decidable_of_iff' _ (Iff.of_eq (k0_chk1457.eq_1 v464))
theorem k0_idx1457_inb : ∀ (v464 : IVec S16 32) (k0_hw1457 : k0_chk1457 v464), ∀ a x, ((![v464] : Fin 1 → IVec S16 32) a x).toNat < S100000.size a := fun v464 k0_hw1457 => k0_hw1457
def k0_off1686 (k0_t138 : Fin k0_t138_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1458 (v471 : IVec S16 32) : Prop :=
  (∀ a x, ((![v471] : Fin 1 → IVec S16 32) a x).toNat < S100000.size a)
instance k0_chk1458.dec : ∀ (v471 : IVec S16 32), Decidable (k0_chk1458 v471) := fun v471 => decidable_of_iff' _ (Iff.of_eq (k0_chk1458.eq_1 v471))
theorem k0_idx1458_inb : ∀ (v471 : IVec S16 32) (k0_hw1458 : k0_chk1458 v471), ∀ a x, ((![v471] : Fin 1 → IVec S16 32) a x).toNat < S100000.size a := fun v471 k0_hw1458 => k0_hw1458
def k0_off1687 (k0_t138 : Fin k0_t138_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1459 (v478 : IVec S16 32) : Prop :=
  (∀ a x, ((![v478] : Fin 1 → IVec S16 32) a x).toNat < S100000.size a)
instance k0_chk1459.dec : ∀ (v478 : IVec S16 32), Decidable (k0_chk1459 v478) := fun v478 => decidable_of_iff' _ (Iff.of_eq (k0_chk1459.eq_1 v478))
theorem k0_idx1459_inb : ∀ (v478 : IVec S16 32) (k0_hw1459 : k0_chk1459 v478), ∀ a x, ((![v478] : Fin 1 → IVec S16 32) a x).toNat < S100000.size a := fun v478 k0_hw1459 => k0_hw1459
def k0_off1688 (k0_t138 : Fin k0_t138_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1460 (v485 : IVec S16 32) : Prop :=
  (∀ a x, ((![v485] : Fin 1 → IVec S16 32) a x).toNat < S100000.size a)
instance k0_chk1460.dec : ∀ (v485 : IVec S16 32), Decidable (k0_chk1460 v485) := fun v485 => decidable_of_iff' _ (Iff.of_eq (k0_chk1460.eq_1 v485))
theorem k0_idx1460_inb : ∀ (v485 : IVec S16 32) (k0_hw1460 : k0_chk1460 v485), ∀ a x, ((![v485] : Fin 1 → IVec S16 32) a x).toNat < S100000.size a := fun v485 k0_hw1460 => k0_hw1460
def k0_off1689 (k0_t138 : Fin k0_t138_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1461 (v492 : IVec S16 32) : Prop :=
  (∀ a x, ((![v492] : Fin 1 → IVec S16 32) a x).toNat < S100000.size a)
instance k0_chk1461.dec : ∀ (v492 : IVec S16 32), Decidable (k0_chk1461 v492) := fun v492 => decidable_of_iff' _ (Iff.of_eq (k0_chk1461.eq_1 v492))
theorem k0_idx1461_inb : ∀ (v492 : IVec S16 32) (k0_hw1461 : k0_chk1461 v492), ∀ a x, ((![v492] : Fin 1 → IVec S16 32) a x).toNat < S100000.size a := fun v492 k0_hw1461 => k0_hw1461
def k0_off1690 (k0_t138 : Fin k0_t138_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1462 (v499 : IVec S16 32) : Prop :=
  (∀ a x, ((![v499] : Fin 1 → IVec S16 32) a x).toNat < S100000.size a)
instance k0_chk1462.dec : ∀ (v499 : IVec S16 32), Decidable (k0_chk1462 v499) := fun v499 => decidable_of_iff' _ (Iff.of_eq (k0_chk1462.eq_1 v499))
theorem k0_idx1462_inb : ∀ (v499 : IVec S16 32) (k0_hw1462 : k0_chk1462 v499), ∀ a x, ((![v499] : Fin 1 → IVec S16 32) a x).toNat < S100000.size a := fun v499 k0_hw1462 => k0_hw1462
def k0_off1691 (k0_t138 : Fin k0_t138_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1463 (v506 : IVec S16 32) : Prop :=
  (∀ a x, ((![v506] : Fin 1 → IVec S16 32) a x).toNat < S100000.size a)
instance k0_chk1463.dec : ∀ (v506 : IVec S16 32), Decidable (k0_chk1463 v506) := fun v506 => decidable_of_iff' _ (Iff.of_eq (k0_chk1463.eq_1 v506))
theorem k0_idx1463_inb : ∀ (v506 : IVec S16 32) (k0_hw1463 : k0_chk1463 v506), ∀ a x, ((![v506] : Fin 1 → IVec S16 32) a x).toNat < S100000.size a := fun v506 k0_hw1463 => k0_hw1463
def k0_off1692 (k0_t138 : Fin k0_t138_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1464 (v513 : IVec S16 32) : Prop :=
  (∀ a x, ((![v513] : Fin 1 → IVec S16 32) a x).toNat < S100000.size a)
instance k0_chk1464.dec : ∀ (v513 : IVec S16 32), Decidable (k0_chk1464 v513) := fun v513 => decidable_of_iff' _ (Iff.of_eq (k0_chk1464.eq_1 v513))
theorem k0_idx1464_inb : ∀ (v513 : IVec S16 32) (k0_hw1464 : k0_chk1464 v513), ∀ a x, ((![v513] : Fin 1 → IVec S16 32) a x).toNat < S100000.size a := fun v513 k0_hw1464 => k0_hw1464
def k0_off1693 (k0_t138 : Fin k0_t138_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1465 (v520 : IVec S16 32) : Prop :=
  (∀ a x, ((![v520] : Fin 1 → IVec S16 32) a x).toNat < S100000.size a)
instance k0_chk1465.dec : ∀ (v520 : IVec S16 32), Decidable (k0_chk1465 v520) := fun v520 => decidable_of_iff' _ (Iff.of_eq (k0_chk1465.eq_1 v520))
theorem k0_idx1465_inb : ∀ (v520 : IVec S16 32) (k0_hw1465 : k0_chk1465 v520), ∀ a x, ((![v520] : Fin 1 → IVec S16 32) a x).toNat < S100000.size a := fun v520 k0_hw1465 => k0_hw1465
def k0_off1694 (k0_t138 : Fin k0_t138_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1466 (v527 : IVec S16 32) : Prop :=
  (∀ a x, ((![v527] : Fin 1 → IVec S16 32) a x).toNat < S100000.size a)
instance k0_chk1466.dec : ∀ (v527 : IVec S16 32), Decidable (k0_chk1466 v527) := fun v527 => decidable_of_iff' _ (Iff.of_eq (k0_chk1466.eq_1 v527))
theorem k0_idx1466_inb : ∀ (v527 : IVec S16 32) (k0_hw1466 : k0_chk1466 v527), ∀ a x, ((![v527] : Fin 1 → IVec S16 32) a x).toNat < S100000.size a := fun v527 k0_hw1466 => k0_hw1466
def k0_off1695 (k0_t138 : Fin k0_t138_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1467 (v534 : IVec S16 32) : Prop :=
  (∀ a x, ((![v534] : Fin 1 → IVec S16 32) a x).toNat < S100000.size a)
instance k0_chk1467.dec : ∀ (v534 : IVec S16 32), Decidable (k0_chk1467 v534) := fun v534 => decidable_of_iff' _ (Iff.of_eq (k0_chk1467.eq_1 v534))
theorem k0_idx1467_inb : ∀ (v534 : IVec S16 32) (k0_hw1467 : k0_chk1467 v534), ∀ a x, ((![v534] : Fin 1 → IVec S16 32) a x).toNat < S100000.size a := fun v534 k0_hw1467 => k0_hw1467
def k0_off1696 (k0_t138 : Fin k0_t138_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1468 (v541 : IVec S16 32) : Prop :=
  (∀ a x, ((![v541] : Fin 1 → IVec S16 32) a x).toNat < S100000.size a)
instance k0_chk1468.dec : ∀ (v541 : IVec S16 32), Decidable (k0_chk1468 v541) := fun v541 => decidable_of_iff' _ (Iff.of_eq (k0_chk1468.eq_1 v541))
theorem k0_idx1468_inb : ∀ (v541 : IVec S16 32) (k0_hw1468 : k0_chk1468 v541), ∀ a x, ((![v541] : Fin 1 → IVec S16 32) a x).toNat < S100000.size a := fun v541 k0_hw1468 => k0_hw1468
def k0_off1697 (k0_t138 : Fin k0_t138_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1469 (v548 : IVec S16 32) : Prop :=
  (∀ a x, ((![v548] : Fin 1 → IVec S16 32) a x).toNat < S100000.size a)
instance k0_chk1469.dec : ∀ (v548 : IVec S16 32), Decidable (k0_chk1469 v548) := fun v548 => decidable_of_iff' _ (Iff.of_eq (k0_chk1469.eq_1 v548))
theorem k0_idx1469_inb : ∀ (v548 : IVec S16 32) (k0_hw1469 : k0_chk1469 v548), ∀ a x, ((![v548] : Fin 1 → IVec S16 32) a x).toNat < S100000.size a := fun v548 k0_hw1469 => k0_hw1469
def k0_off1698 (k0_t138 : Fin k0_t138_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1470 (v555 : IVec S16 32) : Prop :=
  (∀ a x, ((![v555] : Fin 1 → IVec S16 32) a x).toNat < S100000.size a)
instance k0_chk1470.dec : ∀ (v555 : IVec S16 32), Decidable (k0_chk1470 v555) := fun v555 => decidable_of_iff' _ (Iff.of_eq (k0_chk1470.eq_1 v555))
theorem k0_idx1470_inb : ∀ (v555 : IVec S16 32) (k0_hw1470 : k0_chk1470 v555), ∀ a x, ((![v555] : Fin 1 → IVec S16 32) a x).toNat < S100000.size a := fun v555 k0_hw1470 => k0_hw1470
def k0_off1699 (k0_t138 : Fin k0_t138_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1471 (v562 : IVec S16 32) : Prop :=
  (∀ a x, ((![v562] : Fin 1 → IVec S16 32) a x).toNat < S100000.size a)
instance k0_chk1471.dec : ∀ (v562 : IVec S16 32), Decidable (k0_chk1471 v562) := fun v562 => decidable_of_iff' _ (Iff.of_eq (k0_chk1471.eq_1 v562))
theorem k0_idx1471_inb : ∀ (v562 : IVec S16 32) (k0_hw1471 : k0_chk1471 v562), ∀ a x, ((![v562] : Fin 1 → IVec S16 32) a x).toNat < S100000.size a := fun v562 k0_hw1471 => k0_hw1471
def k0_off1700 (k0_t138 : Fin k0_t138_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1472 (v569 : IVec S16 32) : Prop :=
  (∀ a x, ((![v569] : Fin 1 → IVec S16 32) a x).toNat < S100000.size a)
instance k0_chk1472.dec : ∀ (v569 : IVec S16 32), Decidable (k0_chk1472 v569) := fun v569 => decidable_of_iff' _ (Iff.of_eq (k0_chk1472.eq_1 v569))
theorem k0_idx1472_inb : ∀ (v569 : IVec S16 32) (k0_hw1472 : k0_chk1472 v569), ∀ a x, ((![v569] : Fin 1 → IVec S16 32) a x).toNat < S100000.size a := fun v569 k0_hw1472 => k0_hw1472
def k0_off1701 (k0_t138 : Fin k0_t138_loop.trips) : Fin 1 → Nat :=
  let c0_i32_281 : BitVec 32 := 0#32
  let c1_i32_283 : BitVec 32 := 1#32
  let arg36 : BitVec 32 := Scf.iv c0_i32_281 c1_i32_283 k0_t138
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1702 (i : grid0.Coords) (k0_t136 : Fin (k0_t136_loop i).trips) : Fin 2 → Nat :=
  let c792_i32_285 : BitVec 32 := 792#32
  let c36_i32_235 : BitVec 32 := 36#32
  let c0_i32_234 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c792_i32 : BitVec 32 := 792#32
  let v391 : BitVec 32 := Scalar.subi v19 c792_i32
  let v392 : BitVec 32 := Scalar.maxsi c0_i32_234 v391
  let v393 : BitVec 32 := Scalar.minsi c36_i32_235 v392
  let c36_i32_238 : BitVec 32 := 36#32
  let c0_i32_237 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c792_i32_236 : BitVec 32 := 792#32
  let v394 : BitVec 32 := Scalar.subi v38 c792_i32_236
  let v395 : BitVec 32 := Scalar.maxsi c0_i32_237 v394
  let v396 : BitVec 32 := Scalar.minsi c36_i32_238 v395
  let v400 : BitVec 32 := Scalar.subi v396 v393
  let c1_i32_241 : BitVec 32 := 1#32
  let v402 : BitVec 32 := Scalar.divsi v400 c1_i32_241
  let v403 : BitVec 32 := Scalar.muli v402 c1_i32_241
  let v404 : BitVec 32 := Scalar.addi v393 v403
  let c1_i32_243 : BitVec 32 := 1#32
  let arg34 : BitVec 32 := Scf.iv v404 c1_i32_243 k0_t136
  let v460 : BitVec 32 := Scalar.addi c792_i32_285 arg34
  let c8192_i32_r183 : BitVec 32 := 8192#32
  ![v460.toNat, 8192]
@[reducible] def k0_t139_loop (i : grid0.Coords) : Scf.Loop 32 :=
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c36_i32_248 : BitVec 32 := 36#32
  let c0_i32_247 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c828_i32_246 : BitVec 32 := 828#32
  let v410 : BitVec 32 := Scalar.subi v38 c828_i32_246
  let v411 : BitVec 32 := Scalar.maxsi c0_i32_247 v410
  let v412 : BitVec 32 := Scalar.minsi c36_i32_248 v411
  let v416 : BitVec 32 := Scalar.subi v412 v409
  let c1_i32_251 : BitVec 32 := 1#32
  let v418 : BitVec 32 := Scalar.divsi v416 c1_i32_251
  let v419 : BitVec 32 := Scalar.muli v418 c1_i32_251
  let v420 : BitVec 32 := Scalar.addi v409 v419
  let c1_i32_252 : BitVec 32 := 1#32
  ⟨v409, v420, c1_i32_252⟩
def k0_off1703 (i : grid0.Coords) (k0_t139 : Fin (k0_t139_loop i).trips) : Fin 2 → Nat :=
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c1_i32_252 : BitVec 32 := 1#32
  let arg34 : BitVec 32 := Scf.iv v409 c1_i32_252 k0_t139
  let c0_i32_287_r186 : BitVec 32 := 0#32
  ![arg34.toNat, 0]
@[reducible] def k0_t140_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1704 (k0_t140 : Fin k0_t140_loop.trips) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1473 (v464 : IVec S16 32) : Prop :=
  (∀ a x, ((![v464] : Fin 1 → IVec S16 32) a x).toNat < S100000.size a)
instance k0_chk1473.dec : ∀ (v464 : IVec S16 32), Decidable (k0_chk1473 v464) := fun v464 => decidable_of_iff' _ (Iff.of_eq (k0_chk1473.eq_1 v464))
theorem k0_idx1473_inb : ∀ (v464 : IVec S16 32) (k0_hw1473 : k0_chk1473 v464), ∀ a x, ((![v464] : Fin 1 → IVec S16 32) a x).toNat < S100000.size a := fun v464 k0_hw1473 => k0_hw1473
def k0_off1705 (k0_t140 : Fin k0_t140_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1474 (v471 : IVec S16 32) : Prop :=
  (∀ a x, ((![v471] : Fin 1 → IVec S16 32) a x).toNat < S100000.size a)
instance k0_chk1474.dec : ∀ (v471 : IVec S16 32), Decidable (k0_chk1474 v471) := fun v471 => decidable_of_iff' _ (Iff.of_eq (k0_chk1474.eq_1 v471))
theorem k0_idx1474_inb : ∀ (v471 : IVec S16 32) (k0_hw1474 : k0_chk1474 v471), ∀ a x, ((![v471] : Fin 1 → IVec S16 32) a x).toNat < S100000.size a := fun v471 k0_hw1474 => k0_hw1474
def k0_off1706 (k0_t140 : Fin k0_t140_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1475 (v478 : IVec S16 32) : Prop :=
  (∀ a x, ((![v478] : Fin 1 → IVec S16 32) a x).toNat < S100000.size a)
instance k0_chk1475.dec : ∀ (v478 : IVec S16 32), Decidable (k0_chk1475 v478) := fun v478 => decidable_of_iff' _ (Iff.of_eq (k0_chk1475.eq_1 v478))
theorem k0_idx1475_inb : ∀ (v478 : IVec S16 32) (k0_hw1475 : k0_chk1475 v478), ∀ a x, ((![v478] : Fin 1 → IVec S16 32) a x).toNat < S100000.size a := fun v478 k0_hw1475 => k0_hw1475
def k0_off1707 (k0_t140 : Fin k0_t140_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1476 (v485 : IVec S16 32) : Prop :=
  (∀ a x, ((![v485] : Fin 1 → IVec S16 32) a x).toNat < S100000.size a)
instance k0_chk1476.dec : ∀ (v485 : IVec S16 32), Decidable (k0_chk1476 v485) := fun v485 => decidable_of_iff' _ (Iff.of_eq (k0_chk1476.eq_1 v485))
theorem k0_idx1476_inb : ∀ (v485 : IVec S16 32) (k0_hw1476 : k0_chk1476 v485), ∀ a x, ((![v485] : Fin 1 → IVec S16 32) a x).toNat < S100000.size a := fun v485 k0_hw1476 => k0_hw1476
def k0_off1708 (k0_t140 : Fin k0_t140_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1477 (v492 : IVec S16 32) : Prop :=
  (∀ a x, ((![v492] : Fin 1 → IVec S16 32) a x).toNat < S100000.size a)
instance k0_chk1477.dec : ∀ (v492 : IVec S16 32), Decidable (k0_chk1477 v492) := fun v492 => decidable_of_iff' _ (Iff.of_eq (k0_chk1477.eq_1 v492))
theorem k0_idx1477_inb : ∀ (v492 : IVec S16 32) (k0_hw1477 : k0_chk1477 v492), ∀ a x, ((![v492] : Fin 1 → IVec S16 32) a x).toNat < S100000.size a := fun v492 k0_hw1477 => k0_hw1477
def k0_off1709 (k0_t140 : Fin k0_t140_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1478 (v499 : IVec S16 32) : Prop :=
  (∀ a x, ((![v499] : Fin 1 → IVec S16 32) a x).toNat < S100000.size a)
instance k0_chk1478.dec : ∀ (v499 : IVec S16 32), Decidable (k0_chk1478 v499) := fun v499 => decidable_of_iff' _ (Iff.of_eq (k0_chk1478.eq_1 v499))
theorem k0_idx1478_inb : ∀ (v499 : IVec S16 32) (k0_hw1478 : k0_chk1478 v499), ∀ a x, ((![v499] : Fin 1 → IVec S16 32) a x).toNat < S100000.size a := fun v499 k0_hw1478 => k0_hw1478
def k0_off1710 (k0_t140 : Fin k0_t140_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1479 (v506 : IVec S16 32) : Prop :=
  (∀ a x, ((![v506] : Fin 1 → IVec S16 32) a x).toNat < S100000.size a)
instance k0_chk1479.dec : ∀ (v506 : IVec S16 32), Decidable (k0_chk1479 v506) := fun v506 => decidable_of_iff' _ (Iff.of_eq (k0_chk1479.eq_1 v506))
theorem k0_idx1479_inb : ∀ (v506 : IVec S16 32) (k0_hw1479 : k0_chk1479 v506), ∀ a x, ((![v506] : Fin 1 → IVec S16 32) a x).toNat < S100000.size a := fun v506 k0_hw1479 => k0_hw1479
def k0_off1711 (k0_t140 : Fin k0_t140_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1480 (v513 : IVec S16 32) : Prop :=
  (∀ a x, ((![v513] : Fin 1 → IVec S16 32) a x).toNat < S100000.size a)
instance k0_chk1480.dec : ∀ (v513 : IVec S16 32), Decidable (k0_chk1480 v513) := fun v513 => decidable_of_iff' _ (Iff.of_eq (k0_chk1480.eq_1 v513))
theorem k0_idx1480_inb : ∀ (v513 : IVec S16 32) (k0_hw1480 : k0_chk1480 v513), ∀ a x, ((![v513] : Fin 1 → IVec S16 32) a x).toNat < S100000.size a := fun v513 k0_hw1480 => k0_hw1480
def k0_off1712 (k0_t140 : Fin k0_t140_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1481 (v520 : IVec S16 32) : Prop :=
  (∀ a x, ((![v520] : Fin 1 → IVec S16 32) a x).toNat < S100000.size a)
instance k0_chk1481.dec : ∀ (v520 : IVec S16 32), Decidable (k0_chk1481 v520) := fun v520 => decidable_of_iff' _ (Iff.of_eq (k0_chk1481.eq_1 v520))
theorem k0_idx1481_inb : ∀ (v520 : IVec S16 32) (k0_hw1481 : k0_chk1481 v520), ∀ a x, ((![v520] : Fin 1 → IVec S16 32) a x).toNat < S100000.size a := fun v520 k0_hw1481 => k0_hw1481
def k0_off1713 (k0_t140 : Fin k0_t140_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1482 (v527 : IVec S16 32) : Prop :=
  (∀ a x, ((![v527] : Fin 1 → IVec S16 32) a x).toNat < S100000.size a)
instance k0_chk1482.dec : ∀ (v527 : IVec S16 32), Decidable (k0_chk1482 v527) := fun v527 => decidable_of_iff' _ (Iff.of_eq (k0_chk1482.eq_1 v527))
theorem k0_idx1482_inb : ∀ (v527 : IVec S16 32) (k0_hw1482 : k0_chk1482 v527), ∀ a x, ((![v527] : Fin 1 → IVec S16 32) a x).toNat < S100000.size a := fun v527 k0_hw1482 => k0_hw1482
def k0_off1714 (k0_t140 : Fin k0_t140_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1483 (v534 : IVec S16 32) : Prop :=
  (∀ a x, ((![v534] : Fin 1 → IVec S16 32) a x).toNat < S100000.size a)
instance k0_chk1483.dec : ∀ (v534 : IVec S16 32), Decidable (k0_chk1483 v534) := fun v534 => decidable_of_iff' _ (Iff.of_eq (k0_chk1483.eq_1 v534))
theorem k0_idx1483_inb : ∀ (v534 : IVec S16 32) (k0_hw1483 : k0_chk1483 v534), ∀ a x, ((![v534] : Fin 1 → IVec S16 32) a x).toNat < S100000.size a := fun v534 k0_hw1483 => k0_hw1483
def k0_off1715 (k0_t140 : Fin k0_t140_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1484 (v541 : IVec S16 32) : Prop :=
  (∀ a x, ((![v541] : Fin 1 → IVec S16 32) a x).toNat < S100000.size a)
instance k0_chk1484.dec : ∀ (v541 : IVec S16 32), Decidable (k0_chk1484 v541) := fun v541 => decidable_of_iff' _ (Iff.of_eq (k0_chk1484.eq_1 v541))
theorem k0_idx1484_inb : ∀ (v541 : IVec S16 32) (k0_hw1484 : k0_chk1484 v541), ∀ a x, ((![v541] : Fin 1 → IVec S16 32) a x).toNat < S100000.size a := fun v541 k0_hw1484 => k0_hw1484
def k0_off1716 (k0_t140 : Fin k0_t140_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1485 (v548 : IVec S16 32) : Prop :=
  (∀ a x, ((![v548] : Fin 1 → IVec S16 32) a x).toNat < S100000.size a)
instance k0_chk1485.dec : ∀ (v548 : IVec S16 32), Decidable (k0_chk1485 v548) := fun v548 => decidable_of_iff' _ (Iff.of_eq (k0_chk1485.eq_1 v548))
theorem k0_idx1485_inb : ∀ (v548 : IVec S16 32) (k0_hw1485 : k0_chk1485 v548), ∀ a x, ((![v548] : Fin 1 → IVec S16 32) a x).toNat < S100000.size a := fun v548 k0_hw1485 => k0_hw1485
def k0_off1717 (k0_t140 : Fin k0_t140_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1486 (v555 : IVec S16 32) : Prop :=
  (∀ a x, ((![v555] : Fin 1 → IVec S16 32) a x).toNat < S100000.size a)
instance k0_chk1486.dec : ∀ (v555 : IVec S16 32), Decidable (k0_chk1486 v555) := fun v555 => decidable_of_iff' _ (Iff.of_eq (k0_chk1486.eq_1 v555))
theorem k0_idx1486_inb : ∀ (v555 : IVec S16 32) (k0_hw1486 : k0_chk1486 v555), ∀ a x, ((![v555] : Fin 1 → IVec S16 32) a x).toNat < S100000.size a := fun v555 k0_hw1486 => k0_hw1486
def k0_off1718 (k0_t140 : Fin k0_t140_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1487 (v562 : IVec S16 32) : Prop :=
  (∀ a x, ((![v562] : Fin 1 → IVec S16 32) a x).toNat < S100000.size a)
instance k0_chk1487.dec : ∀ (v562 : IVec S16 32), Decidable (k0_chk1487 v562) := fun v562 => decidable_of_iff' _ (Iff.of_eq (k0_chk1487.eq_1 v562))
theorem k0_idx1487_inb : ∀ (v562 : IVec S16 32) (k0_hw1487 : k0_chk1487 v562), ∀ a x, ((![v562] : Fin 1 → IVec S16 32) a x).toNat < S100000.size a := fun v562 k0_hw1487 => k0_hw1487
def k0_off1719 (k0_t140 : Fin k0_t140_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1488 (v569 : IVec S16 32) : Prop :=
  (∀ a x, ((![v569] : Fin 1 → IVec S16 32) a x).toNat < S100000.size a)
instance k0_chk1488.dec : ∀ (v569 : IVec S16 32), Decidable (k0_chk1488 v569) := fun v569 => decidable_of_iff' _ (Iff.of_eq (k0_chk1488.eq_1 v569))
theorem k0_idx1488_inb : ∀ (v569 : IVec S16 32) (k0_hw1488 : k0_chk1488 v569), ∀ a x, ((![v569] : Fin 1 → IVec S16 32) a x).toNat < S100000.size a := fun v569 k0_hw1488 => k0_hw1488
def k0_off1720 (k0_t140 : Fin k0_t140_loop.trips) : Fin 1 → Nat :=
  let c0_i32_275 : BitVec 32 := 0#32
  let c1_i32_277 : BitVec 32 := 1#32
  let arg36 : BitVec 32 := Scf.iv c0_i32_275 c1_i32_277 k0_t140
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1721 (i : grid0.Coords) (k0_t139 : Fin (k0_t139_loop i).trips) : Fin 2 → Nat :=
  let c828_i32_279 : BitVec 32 := 828#32
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c1_i32_252 : BitVec 32 := 1#32
  let arg34 : BitVec 32 := Scf.iv v409 c1_i32_252 k0_t139
  let v457 : BitVec 32 := Scalar.addi c828_i32_279 arg34
  let c0_i32_287_r187 : BitVec 32 := 0#32
  ![v457.toNat, 0]
@[reducible] def k0_t141_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1722 (k0_t141 : Fin k0_t141_loop.trips) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1489 (v464 : IVec S16 32) : Prop :=
  (∀ a x, ((![v464] : Fin 1 → IVec S16 32) a x).toNat < S100000.size a)
instance k0_chk1489.dec : ∀ (v464 : IVec S16 32), Decidable (k0_chk1489 v464) := fun v464 => decidable_of_iff' _ (Iff.of_eq (k0_chk1489.eq_1 v464))
theorem k0_idx1489_inb : ∀ (v464 : IVec S16 32) (k0_hw1489 : k0_chk1489 v464), ∀ a x, ((![v464] : Fin 1 → IVec S16 32) a x).toNat < S100000.size a := fun v464 k0_hw1489 => k0_hw1489
def k0_off1723 (k0_t141 : Fin k0_t141_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1490 (v471 : IVec S16 32) : Prop :=
  (∀ a x, ((![v471] : Fin 1 → IVec S16 32) a x).toNat < S100000.size a)
instance k0_chk1490.dec : ∀ (v471 : IVec S16 32), Decidable (k0_chk1490 v471) := fun v471 => decidable_of_iff' _ (Iff.of_eq (k0_chk1490.eq_1 v471))
theorem k0_idx1490_inb : ∀ (v471 : IVec S16 32) (k0_hw1490 : k0_chk1490 v471), ∀ a x, ((![v471] : Fin 1 → IVec S16 32) a x).toNat < S100000.size a := fun v471 k0_hw1490 => k0_hw1490
def k0_off1724 (k0_t141 : Fin k0_t141_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1491 (v478 : IVec S16 32) : Prop :=
  (∀ a x, ((![v478] : Fin 1 → IVec S16 32) a x).toNat < S100000.size a)
instance k0_chk1491.dec : ∀ (v478 : IVec S16 32), Decidable (k0_chk1491 v478) := fun v478 => decidable_of_iff' _ (Iff.of_eq (k0_chk1491.eq_1 v478))
theorem k0_idx1491_inb : ∀ (v478 : IVec S16 32) (k0_hw1491 : k0_chk1491 v478), ∀ a x, ((![v478] : Fin 1 → IVec S16 32) a x).toNat < S100000.size a := fun v478 k0_hw1491 => k0_hw1491
def k0_off1725 (k0_t141 : Fin k0_t141_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1492 (v485 : IVec S16 32) : Prop :=
  (∀ a x, ((![v485] : Fin 1 → IVec S16 32) a x).toNat < S100000.size a)
instance k0_chk1492.dec : ∀ (v485 : IVec S16 32), Decidable (k0_chk1492 v485) := fun v485 => decidable_of_iff' _ (Iff.of_eq (k0_chk1492.eq_1 v485))
theorem k0_idx1492_inb : ∀ (v485 : IVec S16 32) (k0_hw1492 : k0_chk1492 v485), ∀ a x, ((![v485] : Fin 1 → IVec S16 32) a x).toNat < S100000.size a := fun v485 k0_hw1492 => k0_hw1492
def k0_off1726 (k0_t141 : Fin k0_t141_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1493 (v492 : IVec S16 32) : Prop :=
  (∀ a x, ((![v492] : Fin 1 → IVec S16 32) a x).toNat < S100000.size a)
instance k0_chk1493.dec : ∀ (v492 : IVec S16 32), Decidable (k0_chk1493 v492) := fun v492 => decidable_of_iff' _ (Iff.of_eq (k0_chk1493.eq_1 v492))
theorem k0_idx1493_inb : ∀ (v492 : IVec S16 32) (k0_hw1493 : k0_chk1493 v492), ∀ a x, ((![v492] : Fin 1 → IVec S16 32) a x).toNat < S100000.size a := fun v492 k0_hw1493 => k0_hw1493
def k0_off1727 (k0_t141 : Fin k0_t141_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1494 (v499 : IVec S16 32) : Prop :=
  (∀ a x, ((![v499] : Fin 1 → IVec S16 32) a x).toNat < S100000.size a)
instance k0_chk1494.dec : ∀ (v499 : IVec S16 32), Decidable (k0_chk1494 v499) := fun v499 => decidable_of_iff' _ (Iff.of_eq (k0_chk1494.eq_1 v499))
theorem k0_idx1494_inb : ∀ (v499 : IVec S16 32) (k0_hw1494 : k0_chk1494 v499), ∀ a x, ((![v499] : Fin 1 → IVec S16 32) a x).toNat < S100000.size a := fun v499 k0_hw1494 => k0_hw1494
def k0_off1728 (k0_t141 : Fin k0_t141_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1495 (v506 : IVec S16 32) : Prop :=
  (∀ a x, ((![v506] : Fin 1 → IVec S16 32) a x).toNat < S100000.size a)
instance k0_chk1495.dec : ∀ (v506 : IVec S16 32), Decidable (k0_chk1495 v506) := fun v506 => decidable_of_iff' _ (Iff.of_eq (k0_chk1495.eq_1 v506))
theorem k0_idx1495_inb : ∀ (v506 : IVec S16 32) (k0_hw1495 : k0_chk1495 v506), ∀ a x, ((![v506] : Fin 1 → IVec S16 32) a x).toNat < S100000.size a := fun v506 k0_hw1495 => k0_hw1495
def k0_off1729 (k0_t141 : Fin k0_t141_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1496 (v513 : IVec S16 32) : Prop :=
  (∀ a x, ((![v513] : Fin 1 → IVec S16 32) a x).toNat < S100000.size a)
instance k0_chk1496.dec : ∀ (v513 : IVec S16 32), Decidable (k0_chk1496 v513) := fun v513 => decidable_of_iff' _ (Iff.of_eq (k0_chk1496.eq_1 v513))
theorem k0_idx1496_inb : ∀ (v513 : IVec S16 32) (k0_hw1496 : k0_chk1496 v513), ∀ a x, ((![v513] : Fin 1 → IVec S16 32) a x).toNat < S100000.size a := fun v513 k0_hw1496 => k0_hw1496
def k0_off1730 (k0_t141 : Fin k0_t141_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1497 (v520 : IVec S16 32) : Prop :=
  (∀ a x, ((![v520] : Fin 1 → IVec S16 32) a x).toNat < S100000.size a)
instance k0_chk1497.dec : ∀ (v520 : IVec S16 32), Decidable (k0_chk1497 v520) := fun v520 => decidable_of_iff' _ (Iff.of_eq (k0_chk1497.eq_1 v520))
theorem k0_idx1497_inb : ∀ (v520 : IVec S16 32) (k0_hw1497 : k0_chk1497 v520), ∀ a x, ((![v520] : Fin 1 → IVec S16 32) a x).toNat < S100000.size a := fun v520 k0_hw1497 => k0_hw1497
def k0_off1731 (k0_t141 : Fin k0_t141_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1498 (v527 : IVec S16 32) : Prop :=
  (∀ a x, ((![v527] : Fin 1 → IVec S16 32) a x).toNat < S100000.size a)
instance k0_chk1498.dec : ∀ (v527 : IVec S16 32), Decidable (k0_chk1498 v527) := fun v527 => decidable_of_iff' _ (Iff.of_eq (k0_chk1498.eq_1 v527))
theorem k0_idx1498_inb : ∀ (v527 : IVec S16 32) (k0_hw1498 : k0_chk1498 v527), ∀ a x, ((![v527] : Fin 1 → IVec S16 32) a x).toNat < S100000.size a := fun v527 k0_hw1498 => k0_hw1498
def k0_off1732 (k0_t141 : Fin k0_t141_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1499 (v534 : IVec S16 32) : Prop :=
  (∀ a x, ((![v534] : Fin 1 → IVec S16 32) a x).toNat < S100000.size a)
instance k0_chk1499.dec : ∀ (v534 : IVec S16 32), Decidable (k0_chk1499 v534) := fun v534 => decidable_of_iff' _ (Iff.of_eq (k0_chk1499.eq_1 v534))
theorem k0_idx1499_inb : ∀ (v534 : IVec S16 32) (k0_hw1499 : k0_chk1499 v534), ∀ a x, ((![v534] : Fin 1 → IVec S16 32) a x).toNat < S100000.size a := fun v534 k0_hw1499 => k0_hw1499
def k0_off1733 (k0_t141 : Fin k0_t141_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1500 (v541 : IVec S16 32) : Prop :=
  (∀ a x, ((![v541] : Fin 1 → IVec S16 32) a x).toNat < S100000.size a)
instance k0_chk1500.dec : ∀ (v541 : IVec S16 32), Decidable (k0_chk1500 v541) := fun v541 => decidable_of_iff' _ (Iff.of_eq (k0_chk1500.eq_1 v541))
theorem k0_idx1500_inb : ∀ (v541 : IVec S16 32) (k0_hw1500 : k0_chk1500 v541), ∀ a x, ((![v541] : Fin 1 → IVec S16 32) a x).toNat < S100000.size a := fun v541 k0_hw1500 => k0_hw1500
def k0_off1734 (k0_t141 : Fin k0_t141_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1501 (v548 : IVec S16 32) : Prop :=
  (∀ a x, ((![v548] : Fin 1 → IVec S16 32) a x).toNat < S100000.size a)
instance k0_chk1501.dec : ∀ (v548 : IVec S16 32), Decidable (k0_chk1501 v548) := fun v548 => decidable_of_iff' _ (Iff.of_eq (k0_chk1501.eq_1 v548))
theorem k0_idx1501_inb : ∀ (v548 : IVec S16 32) (k0_hw1501 : k0_chk1501 v548), ∀ a x, ((![v548] : Fin 1 → IVec S16 32) a x).toNat < S100000.size a := fun v548 k0_hw1501 => k0_hw1501
def k0_off1735 (k0_t141 : Fin k0_t141_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1502 (v555 : IVec S16 32) : Prop :=
  (∀ a x, ((![v555] : Fin 1 → IVec S16 32) a x).toNat < S100000.size a)
instance k0_chk1502.dec : ∀ (v555 : IVec S16 32), Decidable (k0_chk1502 v555) := fun v555 => decidable_of_iff' _ (Iff.of_eq (k0_chk1502.eq_1 v555))
theorem k0_idx1502_inb : ∀ (v555 : IVec S16 32) (k0_hw1502 : k0_chk1502 v555), ∀ a x, ((![v555] : Fin 1 → IVec S16 32) a x).toNat < S100000.size a := fun v555 k0_hw1502 => k0_hw1502
def k0_off1736 (k0_t141 : Fin k0_t141_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1503 (v562 : IVec S16 32) : Prop :=
  (∀ a x, ((![v562] : Fin 1 → IVec S16 32) a x).toNat < S100000.size a)
instance k0_chk1503.dec : ∀ (v562 : IVec S16 32), Decidable (k0_chk1503 v562) := fun v562 => decidable_of_iff' _ (Iff.of_eq (k0_chk1503.eq_1 v562))
theorem k0_idx1503_inb : ∀ (v562 : IVec S16 32) (k0_hw1503 : k0_chk1503 v562), ∀ a x, ((![v562] : Fin 1 → IVec S16 32) a x).toNat < S100000.size a := fun v562 k0_hw1503 => k0_hw1503
def k0_off1737 (k0_t141 : Fin k0_t141_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1504 (v569 : IVec S16 32) : Prop :=
  (∀ a x, ((![v569] : Fin 1 → IVec S16 32) a x).toNat < S100000.size a)
instance k0_chk1504.dec : ∀ (v569 : IVec S16 32), Decidable (k0_chk1504 v569) := fun v569 => decidable_of_iff' _ (Iff.of_eq (k0_chk1504.eq_1 v569))
theorem k0_idx1504_inb : ∀ (v569 : IVec S16 32) (k0_hw1504 : k0_chk1504 v569), ∀ a x, ((![v569] : Fin 1 → IVec S16 32) a x).toNat < S100000.size a := fun v569 k0_hw1504 => k0_hw1504
def k0_off1738 (k0_t141 : Fin k0_t141_loop.trips) : Fin 1 → Nat :=
  let c0_i32_281 : BitVec 32 := 0#32
  let c1_i32_283 : BitVec 32 := 1#32
  let arg36 : BitVec 32 := Scf.iv c0_i32_281 c1_i32_283 k0_t141
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1739 (i : grid0.Coords) (k0_t139 : Fin (k0_t139_loop i).trips) : Fin 2 → Nat :=
  let c828_i32_285 : BitVec 32 := 828#32
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c1_i32_252 : BitVec 32 := 1#32
  let arg34 : BitVec 32 := Scf.iv v409 c1_i32_252 k0_t139
  let v460 : BitVec 32 := Scalar.addi c828_i32_285 arg34
  let c8192_i32_r188 : BitVec 32 := 8192#32
  ![v460.toNat, 8192]
@[reducible] def k0_t142_loop (i : grid0.Coords) : Scf.Loop 32 :=
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c36_i32_248 : BitVec 32 := 36#32
  let c0_i32_247 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c828_i32_246 : BitVec 32 := 828#32
  let v410 : BitVec 32 := Scalar.subi v38 c828_i32_246
  let v411 : BitVec 32 := Scalar.maxsi c0_i32_247 v410
  let v412 : BitVec 32 := Scalar.minsi c36_i32_248 v411
  let v416 : BitVec 32 := Scalar.subi v412 v409
  let c1_i32_251 : BitVec 32 := 1#32
  let v418 : BitVec 32 := Scalar.divsi v416 c1_i32_251
  let v419 : BitVec 32 := Scalar.muli v418 c1_i32_251
  let v420 : BitVec 32 := Scalar.addi v409 v419
  let v417 : BitVec 32 := Scalar.addi v409 v416
  let c1_i32_253 : BitVec 32 := 1#32
  ⟨v420, v417, c1_i32_253⟩
def k0_off1740 (i : grid0.Coords) (k0_t142 : Fin (k0_t142_loop i).trips) : Fin 2 → Nat :=
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c36_i32_248 : BitVec 32 := 36#32
  let c0_i32_247 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c828_i32_246 : BitVec 32 := 828#32
  let v410 : BitVec 32 := Scalar.subi v38 c828_i32_246
  let v411 : BitVec 32 := Scalar.maxsi c0_i32_247 v410
  let v412 : BitVec 32 := Scalar.minsi c36_i32_248 v411
  let v416 : BitVec 32 := Scalar.subi v412 v409
  let c1_i32_251 : BitVec 32 := 1#32
  let v418 : BitVec 32 := Scalar.divsi v416 c1_i32_251
  let v419 : BitVec 32 := Scalar.muli v418 c1_i32_251
  let v420 : BitVec 32 := Scalar.addi v409 v419
  let c1_i32_253 : BitVec 32 := 1#32
  let arg34 : BitVec 32 := Scf.iv v420 c1_i32_253 k0_t142
  let c0_i32_287_r189 : BitVec 32 := 0#32
  ![arg34.toNat, 0]
@[reducible] def k0_t143_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1741 (k0_t143 : Fin k0_t143_loop.trips) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1505 (v464 : IVec S16 32) : Prop :=
  (∀ a x, ((![v464] : Fin 1 → IVec S16 32) a x).toNat < S100000.size a)
instance k0_chk1505.dec : ∀ (v464 : IVec S16 32), Decidable (k0_chk1505 v464) := fun v464 => decidable_of_iff' _ (Iff.of_eq (k0_chk1505.eq_1 v464))
theorem k0_idx1505_inb : ∀ (v464 : IVec S16 32) (k0_hw1505 : k0_chk1505 v464), ∀ a x, ((![v464] : Fin 1 → IVec S16 32) a x).toNat < S100000.size a := fun v464 k0_hw1505 => k0_hw1505
def k0_off1742 (k0_t143 : Fin k0_t143_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1506 (v471 : IVec S16 32) : Prop :=
  (∀ a x, ((![v471] : Fin 1 → IVec S16 32) a x).toNat < S100000.size a)
instance k0_chk1506.dec : ∀ (v471 : IVec S16 32), Decidable (k0_chk1506 v471) := fun v471 => decidable_of_iff' _ (Iff.of_eq (k0_chk1506.eq_1 v471))
theorem k0_idx1506_inb : ∀ (v471 : IVec S16 32) (k0_hw1506 : k0_chk1506 v471), ∀ a x, ((![v471] : Fin 1 → IVec S16 32) a x).toNat < S100000.size a := fun v471 k0_hw1506 => k0_hw1506
def k0_off1743 (k0_t143 : Fin k0_t143_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1507 (v478 : IVec S16 32) : Prop :=
  (∀ a x, ((![v478] : Fin 1 → IVec S16 32) a x).toNat < S100000.size a)
instance k0_chk1507.dec : ∀ (v478 : IVec S16 32), Decidable (k0_chk1507 v478) := fun v478 => decidable_of_iff' _ (Iff.of_eq (k0_chk1507.eq_1 v478))
theorem k0_idx1507_inb : ∀ (v478 : IVec S16 32) (k0_hw1507 : k0_chk1507 v478), ∀ a x, ((![v478] : Fin 1 → IVec S16 32) a x).toNat < S100000.size a := fun v478 k0_hw1507 => k0_hw1507
def k0_off1744 (k0_t143 : Fin k0_t143_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1508 (v485 : IVec S16 32) : Prop :=
  (∀ a x, ((![v485] : Fin 1 → IVec S16 32) a x).toNat < S100000.size a)
instance k0_chk1508.dec : ∀ (v485 : IVec S16 32), Decidable (k0_chk1508 v485) := fun v485 => decidable_of_iff' _ (Iff.of_eq (k0_chk1508.eq_1 v485))
theorem k0_idx1508_inb : ∀ (v485 : IVec S16 32) (k0_hw1508 : k0_chk1508 v485), ∀ a x, ((![v485] : Fin 1 → IVec S16 32) a x).toNat < S100000.size a := fun v485 k0_hw1508 => k0_hw1508
def k0_off1745 (k0_t143 : Fin k0_t143_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1509 (v492 : IVec S16 32) : Prop :=
  (∀ a x, ((![v492] : Fin 1 → IVec S16 32) a x).toNat < S100000.size a)
instance k0_chk1509.dec : ∀ (v492 : IVec S16 32), Decidable (k0_chk1509 v492) := fun v492 => decidable_of_iff' _ (Iff.of_eq (k0_chk1509.eq_1 v492))
theorem k0_idx1509_inb : ∀ (v492 : IVec S16 32) (k0_hw1509 : k0_chk1509 v492), ∀ a x, ((![v492] : Fin 1 → IVec S16 32) a x).toNat < S100000.size a := fun v492 k0_hw1509 => k0_hw1509
def k0_off1746 (k0_t143 : Fin k0_t143_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1510 (v499 : IVec S16 32) : Prop :=
  (∀ a x, ((![v499] : Fin 1 → IVec S16 32) a x).toNat < S100000.size a)
instance k0_chk1510.dec : ∀ (v499 : IVec S16 32), Decidable (k0_chk1510 v499) := fun v499 => decidable_of_iff' _ (Iff.of_eq (k0_chk1510.eq_1 v499))
theorem k0_idx1510_inb : ∀ (v499 : IVec S16 32) (k0_hw1510 : k0_chk1510 v499), ∀ a x, ((![v499] : Fin 1 → IVec S16 32) a x).toNat < S100000.size a := fun v499 k0_hw1510 => k0_hw1510
def k0_off1747 (k0_t143 : Fin k0_t143_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1511 (v506 : IVec S16 32) : Prop :=
  (∀ a x, ((![v506] : Fin 1 → IVec S16 32) a x).toNat < S100000.size a)
instance k0_chk1511.dec : ∀ (v506 : IVec S16 32), Decidable (k0_chk1511 v506) := fun v506 => decidable_of_iff' _ (Iff.of_eq (k0_chk1511.eq_1 v506))
theorem k0_idx1511_inb : ∀ (v506 : IVec S16 32) (k0_hw1511 : k0_chk1511 v506), ∀ a x, ((![v506] : Fin 1 → IVec S16 32) a x).toNat < S100000.size a := fun v506 k0_hw1511 => k0_hw1511
def k0_off1748 (k0_t143 : Fin k0_t143_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1512 (v513 : IVec S16 32) : Prop :=
  (∀ a x, ((![v513] : Fin 1 → IVec S16 32) a x).toNat < S100000.size a)
instance k0_chk1512.dec : ∀ (v513 : IVec S16 32), Decidable (k0_chk1512 v513) := fun v513 => decidable_of_iff' _ (Iff.of_eq (k0_chk1512.eq_1 v513))
theorem k0_idx1512_inb : ∀ (v513 : IVec S16 32) (k0_hw1512 : k0_chk1512 v513), ∀ a x, ((![v513] : Fin 1 → IVec S16 32) a x).toNat < S100000.size a := fun v513 k0_hw1512 => k0_hw1512
def k0_off1749 (k0_t143 : Fin k0_t143_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1513 (v520 : IVec S16 32) : Prop :=
  (∀ a x, ((![v520] : Fin 1 → IVec S16 32) a x).toNat < S100000.size a)
instance k0_chk1513.dec : ∀ (v520 : IVec S16 32), Decidable (k0_chk1513 v520) := fun v520 => decidable_of_iff' _ (Iff.of_eq (k0_chk1513.eq_1 v520))
theorem k0_idx1513_inb : ∀ (v520 : IVec S16 32) (k0_hw1513 : k0_chk1513 v520), ∀ a x, ((![v520] : Fin 1 → IVec S16 32) a x).toNat < S100000.size a := fun v520 k0_hw1513 => k0_hw1513
def k0_off1750 (k0_t143 : Fin k0_t143_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1514 (v527 : IVec S16 32) : Prop :=
  (∀ a x, ((![v527] : Fin 1 → IVec S16 32) a x).toNat < S100000.size a)
instance k0_chk1514.dec : ∀ (v527 : IVec S16 32), Decidable (k0_chk1514 v527) := fun v527 => decidable_of_iff' _ (Iff.of_eq (k0_chk1514.eq_1 v527))
theorem k0_idx1514_inb : ∀ (v527 : IVec S16 32) (k0_hw1514 : k0_chk1514 v527), ∀ a x, ((![v527] : Fin 1 → IVec S16 32) a x).toNat < S100000.size a := fun v527 k0_hw1514 => k0_hw1514
def k0_off1751 (k0_t143 : Fin k0_t143_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1515 (v534 : IVec S16 32) : Prop :=
  (∀ a x, ((![v534] : Fin 1 → IVec S16 32) a x).toNat < S100000.size a)
instance k0_chk1515.dec : ∀ (v534 : IVec S16 32), Decidable (k0_chk1515 v534) := fun v534 => decidable_of_iff' _ (Iff.of_eq (k0_chk1515.eq_1 v534))
theorem k0_idx1515_inb : ∀ (v534 : IVec S16 32) (k0_hw1515 : k0_chk1515 v534), ∀ a x, ((![v534] : Fin 1 → IVec S16 32) a x).toNat < S100000.size a := fun v534 k0_hw1515 => k0_hw1515
def k0_off1752 (k0_t143 : Fin k0_t143_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1516 (v541 : IVec S16 32) : Prop :=
  (∀ a x, ((![v541] : Fin 1 → IVec S16 32) a x).toNat < S100000.size a)
instance k0_chk1516.dec : ∀ (v541 : IVec S16 32), Decidable (k0_chk1516 v541) := fun v541 => decidable_of_iff' _ (Iff.of_eq (k0_chk1516.eq_1 v541))
theorem k0_idx1516_inb : ∀ (v541 : IVec S16 32) (k0_hw1516 : k0_chk1516 v541), ∀ a x, ((![v541] : Fin 1 → IVec S16 32) a x).toNat < S100000.size a := fun v541 k0_hw1516 => k0_hw1516
def k0_off1753 (k0_t143 : Fin k0_t143_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1517 (v548 : IVec S16 32) : Prop :=
  (∀ a x, ((![v548] : Fin 1 → IVec S16 32) a x).toNat < S100000.size a)
instance k0_chk1517.dec : ∀ (v548 : IVec S16 32), Decidable (k0_chk1517 v548) := fun v548 => decidable_of_iff' _ (Iff.of_eq (k0_chk1517.eq_1 v548))
theorem k0_idx1517_inb : ∀ (v548 : IVec S16 32) (k0_hw1517 : k0_chk1517 v548), ∀ a x, ((![v548] : Fin 1 → IVec S16 32) a x).toNat < S100000.size a := fun v548 k0_hw1517 => k0_hw1517
def k0_off1754 (k0_t143 : Fin k0_t143_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1518 (v555 : IVec S16 32) : Prop :=
  (∀ a x, ((![v555] : Fin 1 → IVec S16 32) a x).toNat < S100000.size a)
instance k0_chk1518.dec : ∀ (v555 : IVec S16 32), Decidable (k0_chk1518 v555) := fun v555 => decidable_of_iff' _ (Iff.of_eq (k0_chk1518.eq_1 v555))
theorem k0_idx1518_inb : ∀ (v555 : IVec S16 32) (k0_hw1518 : k0_chk1518 v555), ∀ a x, ((![v555] : Fin 1 → IVec S16 32) a x).toNat < S100000.size a := fun v555 k0_hw1518 => k0_hw1518
def k0_off1755 (k0_t143 : Fin k0_t143_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1519 (v562 : IVec S16 32) : Prop :=
  (∀ a x, ((![v562] : Fin 1 → IVec S16 32) a x).toNat < S100000.size a)
instance k0_chk1519.dec : ∀ (v562 : IVec S16 32), Decidable (k0_chk1519 v562) := fun v562 => decidable_of_iff' _ (Iff.of_eq (k0_chk1519.eq_1 v562))
theorem k0_idx1519_inb : ∀ (v562 : IVec S16 32) (k0_hw1519 : k0_chk1519 v562), ∀ a x, ((![v562] : Fin 1 → IVec S16 32) a x).toNat < S100000.size a := fun v562 k0_hw1519 => k0_hw1519
def k0_off1756 (k0_t143 : Fin k0_t143_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1520 (v569 : IVec S16 32) : Prop :=
  (∀ a x, ((![v569] : Fin 1 → IVec S16 32) a x).toNat < S100000.size a)
instance k0_chk1520.dec : ∀ (v569 : IVec S16 32), Decidable (k0_chk1520 v569) := fun v569 => decidable_of_iff' _ (Iff.of_eq (k0_chk1520.eq_1 v569))
theorem k0_idx1520_inb : ∀ (v569 : IVec S16 32) (k0_hw1520 : k0_chk1520 v569), ∀ a x, ((![v569] : Fin 1 → IVec S16 32) a x).toNat < S100000.size a := fun v569 k0_hw1520 => k0_hw1520
def k0_off1757 (k0_t143 : Fin k0_t143_loop.trips) : Fin 1 → Nat :=
  let c0_i32_275 : BitVec 32 := 0#32
  let c1_i32_277 : BitVec 32 := 1#32
  let arg36 : BitVec 32 := Scf.iv c0_i32_275 c1_i32_277 k0_t143
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1758 (i : grid0.Coords) (k0_t142 : Fin (k0_t142_loop i).trips) : Fin 2 → Nat :=
  let c828_i32_279 : BitVec 32 := 828#32
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c36_i32_248 : BitVec 32 := 36#32
  let c0_i32_247 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c828_i32_246 : BitVec 32 := 828#32
  let v410 : BitVec 32 := Scalar.subi v38 c828_i32_246
  let v411 : BitVec 32 := Scalar.maxsi c0_i32_247 v410
  let v412 : BitVec 32 := Scalar.minsi c36_i32_248 v411
  let v416 : BitVec 32 := Scalar.subi v412 v409
  let c1_i32_251 : BitVec 32 := 1#32
  let v418 : BitVec 32 := Scalar.divsi v416 c1_i32_251
  let v419 : BitVec 32 := Scalar.muli v418 c1_i32_251
  let v420 : BitVec 32 := Scalar.addi v409 v419
  let c1_i32_253 : BitVec 32 := 1#32
  let arg34 : BitVec 32 := Scf.iv v420 c1_i32_253 k0_t142
  let v457 : BitVec 32 := Scalar.addi c828_i32_279 arg34
  let c0_i32_287_r190 : BitVec 32 := 0#32
  ![v457.toNat, 0]
@[reducible] def k0_t144_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1759 (k0_t144 : Fin k0_t144_loop.trips) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1521 (v464 : IVec S16 32) : Prop :=
  (∀ a x, ((![v464] : Fin 1 → IVec S16 32) a x).toNat < S100000.size a)
instance k0_chk1521.dec : ∀ (v464 : IVec S16 32), Decidable (k0_chk1521 v464) := fun v464 => decidable_of_iff' _ (Iff.of_eq (k0_chk1521.eq_1 v464))
theorem k0_idx1521_inb : ∀ (v464 : IVec S16 32) (k0_hw1521 : k0_chk1521 v464), ∀ a x, ((![v464] : Fin 1 → IVec S16 32) a x).toNat < S100000.size a := fun v464 k0_hw1521 => k0_hw1521
def k0_off1760 (k0_t144 : Fin k0_t144_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1522 (v471 : IVec S16 32) : Prop :=
  (∀ a x, ((![v471] : Fin 1 → IVec S16 32) a x).toNat < S100000.size a)
instance k0_chk1522.dec : ∀ (v471 : IVec S16 32), Decidable (k0_chk1522 v471) := fun v471 => decidable_of_iff' _ (Iff.of_eq (k0_chk1522.eq_1 v471))
theorem k0_idx1522_inb : ∀ (v471 : IVec S16 32) (k0_hw1522 : k0_chk1522 v471), ∀ a x, ((![v471] : Fin 1 → IVec S16 32) a x).toNat < S100000.size a := fun v471 k0_hw1522 => k0_hw1522
def k0_off1761 (k0_t144 : Fin k0_t144_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1523 (v478 : IVec S16 32) : Prop :=
  (∀ a x, ((![v478] : Fin 1 → IVec S16 32) a x).toNat < S100000.size a)
instance k0_chk1523.dec : ∀ (v478 : IVec S16 32), Decidable (k0_chk1523 v478) := fun v478 => decidable_of_iff' _ (Iff.of_eq (k0_chk1523.eq_1 v478))
theorem k0_idx1523_inb : ∀ (v478 : IVec S16 32) (k0_hw1523 : k0_chk1523 v478), ∀ a x, ((![v478] : Fin 1 → IVec S16 32) a x).toNat < S100000.size a := fun v478 k0_hw1523 => k0_hw1523
def k0_off1762 (k0_t144 : Fin k0_t144_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1524 (v485 : IVec S16 32) : Prop :=
  (∀ a x, ((![v485] : Fin 1 → IVec S16 32) a x).toNat < S100000.size a)
instance k0_chk1524.dec : ∀ (v485 : IVec S16 32), Decidable (k0_chk1524 v485) := fun v485 => decidable_of_iff' _ (Iff.of_eq (k0_chk1524.eq_1 v485))
theorem k0_idx1524_inb : ∀ (v485 : IVec S16 32) (k0_hw1524 : k0_chk1524 v485), ∀ a x, ((![v485] : Fin 1 → IVec S16 32) a x).toNat < S100000.size a := fun v485 k0_hw1524 => k0_hw1524
def k0_off1763 (k0_t144 : Fin k0_t144_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1525 (v492 : IVec S16 32) : Prop :=
  (∀ a x, ((![v492] : Fin 1 → IVec S16 32) a x).toNat < S100000.size a)
instance k0_chk1525.dec : ∀ (v492 : IVec S16 32), Decidable (k0_chk1525 v492) := fun v492 => decidable_of_iff' _ (Iff.of_eq (k0_chk1525.eq_1 v492))
theorem k0_idx1525_inb : ∀ (v492 : IVec S16 32) (k0_hw1525 : k0_chk1525 v492), ∀ a x, ((![v492] : Fin 1 → IVec S16 32) a x).toNat < S100000.size a := fun v492 k0_hw1525 => k0_hw1525
def k0_off1764 (k0_t144 : Fin k0_t144_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1526 (v499 : IVec S16 32) : Prop :=
  (∀ a x, ((![v499] : Fin 1 → IVec S16 32) a x).toNat < S100000.size a)
instance k0_chk1526.dec : ∀ (v499 : IVec S16 32), Decidable (k0_chk1526 v499) := fun v499 => decidable_of_iff' _ (Iff.of_eq (k0_chk1526.eq_1 v499))
theorem k0_idx1526_inb : ∀ (v499 : IVec S16 32) (k0_hw1526 : k0_chk1526 v499), ∀ a x, ((![v499] : Fin 1 → IVec S16 32) a x).toNat < S100000.size a := fun v499 k0_hw1526 => k0_hw1526
def k0_off1765 (k0_t144 : Fin k0_t144_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1527 (v506 : IVec S16 32) : Prop :=
  (∀ a x, ((![v506] : Fin 1 → IVec S16 32) a x).toNat < S100000.size a)
instance k0_chk1527.dec : ∀ (v506 : IVec S16 32), Decidable (k0_chk1527 v506) := fun v506 => decidable_of_iff' _ (Iff.of_eq (k0_chk1527.eq_1 v506))
theorem k0_idx1527_inb : ∀ (v506 : IVec S16 32) (k0_hw1527 : k0_chk1527 v506), ∀ a x, ((![v506] : Fin 1 → IVec S16 32) a x).toNat < S100000.size a := fun v506 k0_hw1527 => k0_hw1527
def k0_off1766 (k0_t144 : Fin k0_t144_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1528 (v513 : IVec S16 32) : Prop :=
  (∀ a x, ((![v513] : Fin 1 → IVec S16 32) a x).toNat < S100000.size a)
instance k0_chk1528.dec : ∀ (v513 : IVec S16 32), Decidable (k0_chk1528 v513) := fun v513 => decidable_of_iff' _ (Iff.of_eq (k0_chk1528.eq_1 v513))
theorem k0_idx1528_inb : ∀ (v513 : IVec S16 32) (k0_hw1528 : k0_chk1528 v513), ∀ a x, ((![v513] : Fin 1 → IVec S16 32) a x).toNat < S100000.size a := fun v513 k0_hw1528 => k0_hw1528
def k0_off1767 (k0_t144 : Fin k0_t144_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1529 (v520 : IVec S16 32) : Prop :=
  (∀ a x, ((![v520] : Fin 1 → IVec S16 32) a x).toNat < S100000.size a)
instance k0_chk1529.dec : ∀ (v520 : IVec S16 32), Decidable (k0_chk1529 v520) := fun v520 => decidable_of_iff' _ (Iff.of_eq (k0_chk1529.eq_1 v520))
theorem k0_idx1529_inb : ∀ (v520 : IVec S16 32) (k0_hw1529 : k0_chk1529 v520), ∀ a x, ((![v520] : Fin 1 → IVec S16 32) a x).toNat < S100000.size a := fun v520 k0_hw1529 => k0_hw1529
def k0_off1768 (k0_t144 : Fin k0_t144_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1530 (v527 : IVec S16 32) : Prop :=
  (∀ a x, ((![v527] : Fin 1 → IVec S16 32) a x).toNat < S100000.size a)
instance k0_chk1530.dec : ∀ (v527 : IVec S16 32), Decidable (k0_chk1530 v527) := fun v527 => decidable_of_iff' _ (Iff.of_eq (k0_chk1530.eq_1 v527))
theorem k0_idx1530_inb : ∀ (v527 : IVec S16 32) (k0_hw1530 : k0_chk1530 v527), ∀ a x, ((![v527] : Fin 1 → IVec S16 32) a x).toNat < S100000.size a := fun v527 k0_hw1530 => k0_hw1530
def k0_off1769 (k0_t144 : Fin k0_t144_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1531 (v534 : IVec S16 32) : Prop :=
  (∀ a x, ((![v534] : Fin 1 → IVec S16 32) a x).toNat < S100000.size a)
instance k0_chk1531.dec : ∀ (v534 : IVec S16 32), Decidable (k0_chk1531 v534) := fun v534 => decidable_of_iff' _ (Iff.of_eq (k0_chk1531.eq_1 v534))
theorem k0_idx1531_inb : ∀ (v534 : IVec S16 32) (k0_hw1531 : k0_chk1531 v534), ∀ a x, ((![v534] : Fin 1 → IVec S16 32) a x).toNat < S100000.size a := fun v534 k0_hw1531 => k0_hw1531
def k0_off1770 (k0_t144 : Fin k0_t144_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1532 (v541 : IVec S16 32) : Prop :=
  (∀ a x, ((![v541] : Fin 1 → IVec S16 32) a x).toNat < S100000.size a)
instance k0_chk1532.dec : ∀ (v541 : IVec S16 32), Decidable (k0_chk1532 v541) := fun v541 => decidable_of_iff' _ (Iff.of_eq (k0_chk1532.eq_1 v541))
theorem k0_idx1532_inb : ∀ (v541 : IVec S16 32) (k0_hw1532 : k0_chk1532 v541), ∀ a x, ((![v541] : Fin 1 → IVec S16 32) a x).toNat < S100000.size a := fun v541 k0_hw1532 => k0_hw1532
def k0_off1771 (k0_t144 : Fin k0_t144_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1533 (v548 : IVec S16 32) : Prop :=
  (∀ a x, ((![v548] : Fin 1 → IVec S16 32) a x).toNat < S100000.size a)
instance k0_chk1533.dec : ∀ (v548 : IVec S16 32), Decidable (k0_chk1533 v548) := fun v548 => decidable_of_iff' _ (Iff.of_eq (k0_chk1533.eq_1 v548))
theorem k0_idx1533_inb : ∀ (v548 : IVec S16 32) (k0_hw1533 : k0_chk1533 v548), ∀ a x, ((![v548] : Fin 1 → IVec S16 32) a x).toNat < S100000.size a := fun v548 k0_hw1533 => k0_hw1533
def k0_off1772 (k0_t144 : Fin k0_t144_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1534 (v555 : IVec S16 32) : Prop :=
  (∀ a x, ((![v555] : Fin 1 → IVec S16 32) a x).toNat < S100000.size a)
instance k0_chk1534.dec : ∀ (v555 : IVec S16 32), Decidable (k0_chk1534 v555) := fun v555 => decidable_of_iff' _ (Iff.of_eq (k0_chk1534.eq_1 v555))
theorem k0_idx1534_inb : ∀ (v555 : IVec S16 32) (k0_hw1534 : k0_chk1534 v555), ∀ a x, ((![v555] : Fin 1 → IVec S16 32) a x).toNat < S100000.size a := fun v555 k0_hw1534 => k0_hw1534
def k0_off1773 (k0_t144 : Fin k0_t144_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1535 (v562 : IVec S16 32) : Prop :=
  (∀ a x, ((![v562] : Fin 1 → IVec S16 32) a x).toNat < S100000.size a)
instance k0_chk1535.dec : ∀ (v562 : IVec S16 32), Decidable (k0_chk1535 v562) := fun v562 => decidable_of_iff' _ (Iff.of_eq (k0_chk1535.eq_1 v562))
theorem k0_idx1535_inb : ∀ (v562 : IVec S16 32) (k0_hw1535 : k0_chk1535 v562), ∀ a x, ((![v562] : Fin 1 → IVec S16 32) a x).toNat < S100000.size a := fun v562 k0_hw1535 => k0_hw1535
def k0_off1774 (k0_t144 : Fin k0_t144_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1536 (v569 : IVec S16 32) : Prop :=
  (∀ a x, ((![v569] : Fin 1 → IVec S16 32) a x).toNat < S100000.size a)
instance k0_chk1536.dec : ∀ (v569 : IVec S16 32), Decidable (k0_chk1536 v569) := fun v569 => decidable_of_iff' _ (Iff.of_eq (k0_chk1536.eq_1 v569))
theorem k0_idx1536_inb : ∀ (v569 : IVec S16 32) (k0_hw1536 : k0_chk1536 v569), ∀ a x, ((![v569] : Fin 1 → IVec S16 32) a x).toNat < S100000.size a := fun v569 k0_hw1536 => k0_hw1536
def k0_off1775 (k0_t144 : Fin k0_t144_loop.trips) : Fin 1 → Nat :=
  let c0_i32_281 : BitVec 32 := 0#32
  let c1_i32_283 : BitVec 32 := 1#32
  let arg36 : BitVec 32 := Scf.iv c0_i32_281 c1_i32_283 k0_t144
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1776 (i : grid0.Coords) (k0_t142 : Fin (k0_t142_loop i).trips) : Fin 2 → Nat :=
  let c828_i32_285 : BitVec 32 := 828#32
  let c36_i32_245 : BitVec 32 := 36#32
  let c0_i32_244 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c828_i32 : BitVec 32 := 828#32
  let v407 : BitVec 32 := Scalar.subi v19 c828_i32
  let v408 : BitVec 32 := Scalar.maxsi c0_i32_244 v407
  let v409 : BitVec 32 := Scalar.minsi c36_i32_245 v408
  let c36_i32_248 : BitVec 32 := 36#32
  let c0_i32_247 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c828_i32_246 : BitVec 32 := 828#32
  let v410 : BitVec 32 := Scalar.subi v38 c828_i32_246
  let v411 : BitVec 32 := Scalar.maxsi c0_i32_247 v410
  let v412 : BitVec 32 := Scalar.minsi c36_i32_248 v411
  let v416 : BitVec 32 := Scalar.subi v412 v409
  let c1_i32_251 : BitVec 32 := 1#32
  let v418 : BitVec 32 := Scalar.divsi v416 c1_i32_251
  let v419 : BitVec 32 := Scalar.muli v418 c1_i32_251
  let v420 : BitVec 32 := Scalar.addi v409 v419
  let c1_i32_253 : BitVec 32 := 1#32
  let arg34 : BitVec 32 := Scf.iv v420 c1_i32_253 k0_t142
  let v460 : BitVec 32 := Scalar.addi c828_i32_285 arg34
  let c8192_i32_r191 : BitVec 32 := 8192#32
  ![v460.toNat, 8192]
@[reducible] def k0_t145_loop (i : grid0.Coords) : Scf.Loop 32 :=
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c36_i32_258 : BitVec 32 := 36#32
  let c0_i32_257 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c864_i32_256 : BitVec 32 := 864#32
  let v426 : BitVec 32 := Scalar.subi v38 c864_i32_256
  let v427 : BitVec 32 := Scalar.maxsi c0_i32_257 v426
  let v428 : BitVec 32 := Scalar.minsi c36_i32_258 v427
  let v432 : BitVec 32 := Scalar.subi v428 v425
  let c1_i32_261 : BitVec 32 := 1#32
  let v434 : BitVec 32 := Scalar.divsi v432 c1_i32_261
  let v435 : BitVec 32 := Scalar.muli v434 c1_i32_261
  let v436 : BitVec 32 := Scalar.addi v425 v435
  let c1_i32_262 : BitVec 32 := 1#32
  ⟨v425, v436, c1_i32_262⟩
def k0_off1777 (i : grid0.Coords) (k0_t145 : Fin (k0_t145_loop i).trips) : Fin 2 → Nat :=
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c1_i32_262 : BitVec 32 := 1#32
  let arg34 : BitVec 32 := Scf.iv v425 c1_i32_262 k0_t145
  let c0_i32_287_r194 : BitVec 32 := 0#32
  ![arg34.toNat, 0]
@[reducible] def k0_t146_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1778 (k0_t146 : Fin k0_t146_loop.trips) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1537 (v464 : IVec S16 32) : Prop :=
  (∀ a x, ((![v464] : Fin 1 → IVec S16 32) a x).toNat < S100000.size a)
instance k0_chk1537.dec : ∀ (v464 : IVec S16 32), Decidable (k0_chk1537 v464) := fun v464 => decidable_of_iff' _ (Iff.of_eq (k0_chk1537.eq_1 v464))
theorem k0_idx1537_inb : ∀ (v464 : IVec S16 32) (k0_hw1537 : k0_chk1537 v464), ∀ a x, ((![v464] : Fin 1 → IVec S16 32) a x).toNat < S100000.size a := fun v464 k0_hw1537 => k0_hw1537
def k0_off1779 (k0_t146 : Fin k0_t146_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1538 (v471 : IVec S16 32) : Prop :=
  (∀ a x, ((![v471] : Fin 1 → IVec S16 32) a x).toNat < S100000.size a)
instance k0_chk1538.dec : ∀ (v471 : IVec S16 32), Decidable (k0_chk1538 v471) := fun v471 => decidable_of_iff' _ (Iff.of_eq (k0_chk1538.eq_1 v471))
theorem k0_idx1538_inb : ∀ (v471 : IVec S16 32) (k0_hw1538 : k0_chk1538 v471), ∀ a x, ((![v471] : Fin 1 → IVec S16 32) a x).toNat < S100000.size a := fun v471 k0_hw1538 => k0_hw1538
def k0_off1780 (k0_t146 : Fin k0_t146_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1539 (v478 : IVec S16 32) : Prop :=
  (∀ a x, ((![v478] : Fin 1 → IVec S16 32) a x).toNat < S100000.size a)
instance k0_chk1539.dec : ∀ (v478 : IVec S16 32), Decidable (k0_chk1539 v478) := fun v478 => decidable_of_iff' _ (Iff.of_eq (k0_chk1539.eq_1 v478))
theorem k0_idx1539_inb : ∀ (v478 : IVec S16 32) (k0_hw1539 : k0_chk1539 v478), ∀ a x, ((![v478] : Fin 1 → IVec S16 32) a x).toNat < S100000.size a := fun v478 k0_hw1539 => k0_hw1539
def k0_off1781 (k0_t146 : Fin k0_t146_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1540 (v485 : IVec S16 32) : Prop :=
  (∀ a x, ((![v485] : Fin 1 → IVec S16 32) a x).toNat < S100000.size a)
instance k0_chk1540.dec : ∀ (v485 : IVec S16 32), Decidable (k0_chk1540 v485) := fun v485 => decidable_of_iff' _ (Iff.of_eq (k0_chk1540.eq_1 v485))
theorem k0_idx1540_inb : ∀ (v485 : IVec S16 32) (k0_hw1540 : k0_chk1540 v485), ∀ a x, ((![v485] : Fin 1 → IVec S16 32) a x).toNat < S100000.size a := fun v485 k0_hw1540 => k0_hw1540
def k0_off1782 (k0_t146 : Fin k0_t146_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1541 (v492 : IVec S16 32) : Prop :=
  (∀ a x, ((![v492] : Fin 1 → IVec S16 32) a x).toNat < S100000.size a)
instance k0_chk1541.dec : ∀ (v492 : IVec S16 32), Decidable (k0_chk1541 v492) := fun v492 => decidable_of_iff' _ (Iff.of_eq (k0_chk1541.eq_1 v492))
theorem k0_idx1541_inb : ∀ (v492 : IVec S16 32) (k0_hw1541 : k0_chk1541 v492), ∀ a x, ((![v492] : Fin 1 → IVec S16 32) a x).toNat < S100000.size a := fun v492 k0_hw1541 => k0_hw1541
def k0_off1783 (k0_t146 : Fin k0_t146_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1542 (v499 : IVec S16 32) : Prop :=
  (∀ a x, ((![v499] : Fin 1 → IVec S16 32) a x).toNat < S100000.size a)
instance k0_chk1542.dec : ∀ (v499 : IVec S16 32), Decidable (k0_chk1542 v499) := fun v499 => decidable_of_iff' _ (Iff.of_eq (k0_chk1542.eq_1 v499))
theorem k0_idx1542_inb : ∀ (v499 : IVec S16 32) (k0_hw1542 : k0_chk1542 v499), ∀ a x, ((![v499] : Fin 1 → IVec S16 32) a x).toNat < S100000.size a := fun v499 k0_hw1542 => k0_hw1542
def k0_off1784 (k0_t146 : Fin k0_t146_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1543 (v506 : IVec S16 32) : Prop :=
  (∀ a x, ((![v506] : Fin 1 → IVec S16 32) a x).toNat < S100000.size a)
instance k0_chk1543.dec : ∀ (v506 : IVec S16 32), Decidable (k0_chk1543 v506) := fun v506 => decidable_of_iff' _ (Iff.of_eq (k0_chk1543.eq_1 v506))
theorem k0_idx1543_inb : ∀ (v506 : IVec S16 32) (k0_hw1543 : k0_chk1543 v506), ∀ a x, ((![v506] : Fin 1 → IVec S16 32) a x).toNat < S100000.size a := fun v506 k0_hw1543 => k0_hw1543
def k0_off1785 (k0_t146 : Fin k0_t146_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1544 (v513 : IVec S16 32) : Prop :=
  (∀ a x, ((![v513] : Fin 1 → IVec S16 32) a x).toNat < S100000.size a)
instance k0_chk1544.dec : ∀ (v513 : IVec S16 32), Decidable (k0_chk1544 v513) := fun v513 => decidable_of_iff' _ (Iff.of_eq (k0_chk1544.eq_1 v513))
theorem k0_idx1544_inb : ∀ (v513 : IVec S16 32) (k0_hw1544 : k0_chk1544 v513), ∀ a x, ((![v513] : Fin 1 → IVec S16 32) a x).toNat < S100000.size a := fun v513 k0_hw1544 => k0_hw1544
def k0_off1786 (k0_t146 : Fin k0_t146_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1545 (v520 : IVec S16 32) : Prop :=
  (∀ a x, ((![v520] : Fin 1 → IVec S16 32) a x).toNat < S100000.size a)
instance k0_chk1545.dec : ∀ (v520 : IVec S16 32), Decidable (k0_chk1545 v520) := fun v520 => decidable_of_iff' _ (Iff.of_eq (k0_chk1545.eq_1 v520))
theorem k0_idx1545_inb : ∀ (v520 : IVec S16 32) (k0_hw1545 : k0_chk1545 v520), ∀ a x, ((![v520] : Fin 1 → IVec S16 32) a x).toNat < S100000.size a := fun v520 k0_hw1545 => k0_hw1545
def k0_off1787 (k0_t146 : Fin k0_t146_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1546 (v527 : IVec S16 32) : Prop :=
  (∀ a x, ((![v527] : Fin 1 → IVec S16 32) a x).toNat < S100000.size a)
instance k0_chk1546.dec : ∀ (v527 : IVec S16 32), Decidable (k0_chk1546 v527) := fun v527 => decidable_of_iff' _ (Iff.of_eq (k0_chk1546.eq_1 v527))
theorem k0_idx1546_inb : ∀ (v527 : IVec S16 32) (k0_hw1546 : k0_chk1546 v527), ∀ a x, ((![v527] : Fin 1 → IVec S16 32) a x).toNat < S100000.size a := fun v527 k0_hw1546 => k0_hw1546
def k0_off1788 (k0_t146 : Fin k0_t146_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1547 (v534 : IVec S16 32) : Prop :=
  (∀ a x, ((![v534] : Fin 1 → IVec S16 32) a x).toNat < S100000.size a)
instance k0_chk1547.dec : ∀ (v534 : IVec S16 32), Decidable (k0_chk1547 v534) := fun v534 => decidable_of_iff' _ (Iff.of_eq (k0_chk1547.eq_1 v534))
theorem k0_idx1547_inb : ∀ (v534 : IVec S16 32) (k0_hw1547 : k0_chk1547 v534), ∀ a x, ((![v534] : Fin 1 → IVec S16 32) a x).toNat < S100000.size a := fun v534 k0_hw1547 => k0_hw1547
def k0_off1789 (k0_t146 : Fin k0_t146_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1548 (v541 : IVec S16 32) : Prop :=
  (∀ a x, ((![v541] : Fin 1 → IVec S16 32) a x).toNat < S100000.size a)
instance k0_chk1548.dec : ∀ (v541 : IVec S16 32), Decidable (k0_chk1548 v541) := fun v541 => decidable_of_iff' _ (Iff.of_eq (k0_chk1548.eq_1 v541))
theorem k0_idx1548_inb : ∀ (v541 : IVec S16 32) (k0_hw1548 : k0_chk1548 v541), ∀ a x, ((![v541] : Fin 1 → IVec S16 32) a x).toNat < S100000.size a := fun v541 k0_hw1548 => k0_hw1548
def k0_off1790 (k0_t146 : Fin k0_t146_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1549 (v548 : IVec S16 32) : Prop :=
  (∀ a x, ((![v548] : Fin 1 → IVec S16 32) a x).toNat < S100000.size a)
instance k0_chk1549.dec : ∀ (v548 : IVec S16 32), Decidable (k0_chk1549 v548) := fun v548 => decidable_of_iff' _ (Iff.of_eq (k0_chk1549.eq_1 v548))
theorem k0_idx1549_inb : ∀ (v548 : IVec S16 32) (k0_hw1549 : k0_chk1549 v548), ∀ a x, ((![v548] : Fin 1 → IVec S16 32) a x).toNat < S100000.size a := fun v548 k0_hw1549 => k0_hw1549
def k0_off1791 (k0_t146 : Fin k0_t146_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1550 (v555 : IVec S16 32) : Prop :=
  (∀ a x, ((![v555] : Fin 1 → IVec S16 32) a x).toNat < S100000.size a)
instance k0_chk1550.dec : ∀ (v555 : IVec S16 32), Decidable (k0_chk1550 v555) := fun v555 => decidable_of_iff' _ (Iff.of_eq (k0_chk1550.eq_1 v555))
theorem k0_idx1550_inb : ∀ (v555 : IVec S16 32) (k0_hw1550 : k0_chk1550 v555), ∀ a x, ((![v555] : Fin 1 → IVec S16 32) a x).toNat < S100000.size a := fun v555 k0_hw1550 => k0_hw1550
def k0_off1792 (k0_t146 : Fin k0_t146_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1551 (v562 : IVec S16 32) : Prop :=
  (∀ a x, ((![v562] : Fin 1 → IVec S16 32) a x).toNat < S100000.size a)
instance k0_chk1551.dec : ∀ (v562 : IVec S16 32), Decidable (k0_chk1551 v562) := fun v562 => decidable_of_iff' _ (Iff.of_eq (k0_chk1551.eq_1 v562))
theorem k0_idx1551_inb : ∀ (v562 : IVec S16 32) (k0_hw1551 : k0_chk1551 v562), ∀ a x, ((![v562] : Fin 1 → IVec S16 32) a x).toNat < S100000.size a := fun v562 k0_hw1551 => k0_hw1551
def k0_off1793 (k0_t146 : Fin k0_t146_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1552 (v569 : IVec S16 32) : Prop :=
  (∀ a x, ((![v569] : Fin 1 → IVec S16 32) a x).toNat < S100000.size a)
instance k0_chk1552.dec : ∀ (v569 : IVec S16 32), Decidable (k0_chk1552 v569) := fun v569 => decidable_of_iff' _ (Iff.of_eq (k0_chk1552.eq_1 v569))
theorem k0_idx1552_inb : ∀ (v569 : IVec S16 32) (k0_hw1552 : k0_chk1552 v569), ∀ a x, ((![v569] : Fin 1 → IVec S16 32) a x).toNat < S100000.size a := fun v569 k0_hw1552 => k0_hw1552
def k0_off1794 (k0_t146 : Fin k0_t146_loop.trips) : Fin 1 → Nat :=
  let c0_i32_275 : BitVec 32 := 0#32
  let c1_i32_277 : BitVec 32 := 1#32
  let arg36 : BitVec 32 := Scf.iv c0_i32_275 c1_i32_277 k0_t146
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1795 (i : grid0.Coords) (k0_t145 : Fin (k0_t145_loop i).trips) : Fin 2 → Nat :=
  let c864_i32_279 : BitVec 32 := 864#32
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c1_i32_262 : BitVec 32 := 1#32
  let arg34 : BitVec 32 := Scf.iv v425 c1_i32_262 k0_t145
  let v457 : BitVec 32 := Scalar.addi c864_i32_279 arg34
  let c0_i32_287_r195 : BitVec 32 := 0#32
  ![v457.toNat, 0]
@[reducible] def k0_t147_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1796 (k0_t147 : Fin k0_t147_loop.trips) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1553 (v464 : IVec S16 32) : Prop :=
  (∀ a x, ((![v464] : Fin 1 → IVec S16 32) a x).toNat < S100000.size a)
instance k0_chk1553.dec : ∀ (v464 : IVec S16 32), Decidable (k0_chk1553 v464) := fun v464 => decidable_of_iff' _ (Iff.of_eq (k0_chk1553.eq_1 v464))
theorem k0_idx1553_inb : ∀ (v464 : IVec S16 32) (k0_hw1553 : k0_chk1553 v464), ∀ a x, ((![v464] : Fin 1 → IVec S16 32) a x).toNat < S100000.size a := fun v464 k0_hw1553 => k0_hw1553
def k0_off1797 (k0_t147 : Fin k0_t147_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1554 (v471 : IVec S16 32) : Prop :=
  (∀ a x, ((![v471] : Fin 1 → IVec S16 32) a x).toNat < S100000.size a)
instance k0_chk1554.dec : ∀ (v471 : IVec S16 32), Decidable (k0_chk1554 v471) := fun v471 => decidable_of_iff' _ (Iff.of_eq (k0_chk1554.eq_1 v471))
theorem k0_idx1554_inb : ∀ (v471 : IVec S16 32) (k0_hw1554 : k0_chk1554 v471), ∀ a x, ((![v471] : Fin 1 → IVec S16 32) a x).toNat < S100000.size a := fun v471 k0_hw1554 => k0_hw1554
def k0_off1798 (k0_t147 : Fin k0_t147_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1555 (v478 : IVec S16 32) : Prop :=
  (∀ a x, ((![v478] : Fin 1 → IVec S16 32) a x).toNat < S100000.size a)
instance k0_chk1555.dec : ∀ (v478 : IVec S16 32), Decidable (k0_chk1555 v478) := fun v478 => decidable_of_iff' _ (Iff.of_eq (k0_chk1555.eq_1 v478))
theorem k0_idx1555_inb : ∀ (v478 : IVec S16 32) (k0_hw1555 : k0_chk1555 v478), ∀ a x, ((![v478] : Fin 1 → IVec S16 32) a x).toNat < S100000.size a := fun v478 k0_hw1555 => k0_hw1555
def k0_off1799 (k0_t147 : Fin k0_t147_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1556 (v485 : IVec S16 32) : Prop :=
  (∀ a x, ((![v485] : Fin 1 → IVec S16 32) a x).toNat < S100000.size a)
instance k0_chk1556.dec : ∀ (v485 : IVec S16 32), Decidable (k0_chk1556 v485) := fun v485 => decidable_of_iff' _ (Iff.of_eq (k0_chk1556.eq_1 v485))
theorem k0_idx1556_inb : ∀ (v485 : IVec S16 32) (k0_hw1556 : k0_chk1556 v485), ∀ a x, ((![v485] : Fin 1 → IVec S16 32) a x).toNat < S100000.size a := fun v485 k0_hw1556 => k0_hw1556
def k0_off1800 (k0_t147 : Fin k0_t147_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1557 (v492 : IVec S16 32) : Prop :=
  (∀ a x, ((![v492] : Fin 1 → IVec S16 32) a x).toNat < S100000.size a)
instance k0_chk1557.dec : ∀ (v492 : IVec S16 32), Decidable (k0_chk1557 v492) := fun v492 => decidable_of_iff' _ (Iff.of_eq (k0_chk1557.eq_1 v492))
theorem k0_idx1557_inb : ∀ (v492 : IVec S16 32) (k0_hw1557 : k0_chk1557 v492), ∀ a x, ((![v492] : Fin 1 → IVec S16 32) a x).toNat < S100000.size a := fun v492 k0_hw1557 => k0_hw1557
def k0_off1801 (k0_t147 : Fin k0_t147_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1558 (v499 : IVec S16 32) : Prop :=
  (∀ a x, ((![v499] : Fin 1 → IVec S16 32) a x).toNat < S100000.size a)
instance k0_chk1558.dec : ∀ (v499 : IVec S16 32), Decidable (k0_chk1558 v499) := fun v499 => decidable_of_iff' _ (Iff.of_eq (k0_chk1558.eq_1 v499))
theorem k0_idx1558_inb : ∀ (v499 : IVec S16 32) (k0_hw1558 : k0_chk1558 v499), ∀ a x, ((![v499] : Fin 1 → IVec S16 32) a x).toNat < S100000.size a := fun v499 k0_hw1558 => k0_hw1558
def k0_off1802 (k0_t147 : Fin k0_t147_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1559 (v506 : IVec S16 32) : Prop :=
  (∀ a x, ((![v506] : Fin 1 → IVec S16 32) a x).toNat < S100000.size a)
instance k0_chk1559.dec : ∀ (v506 : IVec S16 32), Decidable (k0_chk1559 v506) := fun v506 => decidable_of_iff' _ (Iff.of_eq (k0_chk1559.eq_1 v506))
theorem k0_idx1559_inb : ∀ (v506 : IVec S16 32) (k0_hw1559 : k0_chk1559 v506), ∀ a x, ((![v506] : Fin 1 → IVec S16 32) a x).toNat < S100000.size a := fun v506 k0_hw1559 => k0_hw1559
def k0_off1803 (k0_t147 : Fin k0_t147_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1560 (v513 : IVec S16 32) : Prop :=
  (∀ a x, ((![v513] : Fin 1 → IVec S16 32) a x).toNat < S100000.size a)
instance k0_chk1560.dec : ∀ (v513 : IVec S16 32), Decidable (k0_chk1560 v513) := fun v513 => decidable_of_iff' _ (Iff.of_eq (k0_chk1560.eq_1 v513))
theorem k0_idx1560_inb : ∀ (v513 : IVec S16 32) (k0_hw1560 : k0_chk1560 v513), ∀ a x, ((![v513] : Fin 1 → IVec S16 32) a x).toNat < S100000.size a := fun v513 k0_hw1560 => k0_hw1560
def k0_off1804 (k0_t147 : Fin k0_t147_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1561 (v520 : IVec S16 32) : Prop :=
  (∀ a x, ((![v520] : Fin 1 → IVec S16 32) a x).toNat < S100000.size a)
instance k0_chk1561.dec : ∀ (v520 : IVec S16 32), Decidable (k0_chk1561 v520) := fun v520 => decidable_of_iff' _ (Iff.of_eq (k0_chk1561.eq_1 v520))
theorem k0_idx1561_inb : ∀ (v520 : IVec S16 32) (k0_hw1561 : k0_chk1561 v520), ∀ a x, ((![v520] : Fin 1 → IVec S16 32) a x).toNat < S100000.size a := fun v520 k0_hw1561 => k0_hw1561
def k0_off1805 (k0_t147 : Fin k0_t147_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1562 (v527 : IVec S16 32) : Prop :=
  (∀ a x, ((![v527] : Fin 1 → IVec S16 32) a x).toNat < S100000.size a)
instance k0_chk1562.dec : ∀ (v527 : IVec S16 32), Decidable (k0_chk1562 v527) := fun v527 => decidable_of_iff' _ (Iff.of_eq (k0_chk1562.eq_1 v527))
theorem k0_idx1562_inb : ∀ (v527 : IVec S16 32) (k0_hw1562 : k0_chk1562 v527), ∀ a x, ((![v527] : Fin 1 → IVec S16 32) a x).toNat < S100000.size a := fun v527 k0_hw1562 => k0_hw1562
def k0_off1806 (k0_t147 : Fin k0_t147_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1563 (v534 : IVec S16 32) : Prop :=
  (∀ a x, ((![v534] : Fin 1 → IVec S16 32) a x).toNat < S100000.size a)
instance k0_chk1563.dec : ∀ (v534 : IVec S16 32), Decidable (k0_chk1563 v534) := fun v534 => decidable_of_iff' _ (Iff.of_eq (k0_chk1563.eq_1 v534))
theorem k0_idx1563_inb : ∀ (v534 : IVec S16 32) (k0_hw1563 : k0_chk1563 v534), ∀ a x, ((![v534] : Fin 1 → IVec S16 32) a x).toNat < S100000.size a := fun v534 k0_hw1563 => k0_hw1563
def k0_off1807 (k0_t147 : Fin k0_t147_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1564 (v541 : IVec S16 32) : Prop :=
  (∀ a x, ((![v541] : Fin 1 → IVec S16 32) a x).toNat < S100000.size a)
instance k0_chk1564.dec : ∀ (v541 : IVec S16 32), Decidable (k0_chk1564 v541) := fun v541 => decidable_of_iff' _ (Iff.of_eq (k0_chk1564.eq_1 v541))
theorem k0_idx1564_inb : ∀ (v541 : IVec S16 32) (k0_hw1564 : k0_chk1564 v541), ∀ a x, ((![v541] : Fin 1 → IVec S16 32) a x).toNat < S100000.size a := fun v541 k0_hw1564 => k0_hw1564
def k0_off1808 (k0_t147 : Fin k0_t147_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1565 (v548 : IVec S16 32) : Prop :=
  (∀ a x, ((![v548] : Fin 1 → IVec S16 32) a x).toNat < S100000.size a)
instance k0_chk1565.dec : ∀ (v548 : IVec S16 32), Decidable (k0_chk1565 v548) := fun v548 => decidable_of_iff' _ (Iff.of_eq (k0_chk1565.eq_1 v548))
theorem k0_idx1565_inb : ∀ (v548 : IVec S16 32) (k0_hw1565 : k0_chk1565 v548), ∀ a x, ((![v548] : Fin 1 → IVec S16 32) a x).toNat < S100000.size a := fun v548 k0_hw1565 => k0_hw1565
def k0_off1809 (k0_t147 : Fin k0_t147_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1566 (v555 : IVec S16 32) : Prop :=
  (∀ a x, ((![v555] : Fin 1 → IVec S16 32) a x).toNat < S100000.size a)
instance k0_chk1566.dec : ∀ (v555 : IVec S16 32), Decidable (k0_chk1566 v555) := fun v555 => decidable_of_iff' _ (Iff.of_eq (k0_chk1566.eq_1 v555))
theorem k0_idx1566_inb : ∀ (v555 : IVec S16 32) (k0_hw1566 : k0_chk1566 v555), ∀ a x, ((![v555] : Fin 1 → IVec S16 32) a x).toNat < S100000.size a := fun v555 k0_hw1566 => k0_hw1566
def k0_off1810 (k0_t147 : Fin k0_t147_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1567 (v562 : IVec S16 32) : Prop :=
  (∀ a x, ((![v562] : Fin 1 → IVec S16 32) a x).toNat < S100000.size a)
instance k0_chk1567.dec : ∀ (v562 : IVec S16 32), Decidable (k0_chk1567 v562) := fun v562 => decidable_of_iff' _ (Iff.of_eq (k0_chk1567.eq_1 v562))
theorem k0_idx1567_inb : ∀ (v562 : IVec S16 32) (k0_hw1567 : k0_chk1567 v562), ∀ a x, ((![v562] : Fin 1 → IVec S16 32) a x).toNat < S100000.size a := fun v562 k0_hw1567 => k0_hw1567
def k0_off1811 (k0_t147 : Fin k0_t147_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1568 (v569 : IVec S16 32) : Prop :=
  (∀ a x, ((![v569] : Fin 1 → IVec S16 32) a x).toNat < S100000.size a)
instance k0_chk1568.dec : ∀ (v569 : IVec S16 32), Decidable (k0_chk1568 v569) := fun v569 => decidable_of_iff' _ (Iff.of_eq (k0_chk1568.eq_1 v569))
theorem k0_idx1568_inb : ∀ (v569 : IVec S16 32) (k0_hw1568 : k0_chk1568 v569), ∀ a x, ((![v569] : Fin 1 → IVec S16 32) a x).toNat < S100000.size a := fun v569 k0_hw1568 => k0_hw1568
def k0_off1812 (k0_t147 : Fin k0_t147_loop.trips) : Fin 1 → Nat :=
  let c0_i32_281 : BitVec 32 := 0#32
  let c1_i32_283 : BitVec 32 := 1#32
  let arg36 : BitVec 32 := Scf.iv c0_i32_281 c1_i32_283 k0_t147
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1813 (i : grid0.Coords) (k0_t145 : Fin (k0_t145_loop i).trips) : Fin 2 → Nat :=
  let c864_i32_285 : BitVec 32 := 864#32
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c1_i32_262 : BitVec 32 := 1#32
  let arg34 : BitVec 32 := Scf.iv v425 c1_i32_262 k0_t145
  let v460 : BitVec 32 := Scalar.addi c864_i32_285 arg34
  let c8192_i32_r196 : BitVec 32 := 8192#32
  ![v460.toNat, 8192]
@[reducible] def k0_t148_loop (i : grid0.Coords) : Scf.Loop 32 :=
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c36_i32_258 : BitVec 32 := 36#32
  let c0_i32_257 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c864_i32_256 : BitVec 32 := 864#32
  let v426 : BitVec 32 := Scalar.subi v38 c864_i32_256
  let v427 : BitVec 32 := Scalar.maxsi c0_i32_257 v426
  let v428 : BitVec 32 := Scalar.minsi c36_i32_258 v427
  let v432 : BitVec 32 := Scalar.subi v428 v425
  let c1_i32_261 : BitVec 32 := 1#32
  let v434 : BitVec 32 := Scalar.divsi v432 c1_i32_261
  let v435 : BitVec 32 := Scalar.muli v434 c1_i32_261
  let v436 : BitVec 32 := Scalar.addi v425 v435
  let v433 : BitVec 32 := Scalar.addi v425 v432
  let c1_i32_263 : BitVec 32 := 1#32
  ⟨v436, v433, c1_i32_263⟩
def k0_off1814 (i : grid0.Coords) (k0_t148 : Fin (k0_t148_loop i).trips) : Fin 2 → Nat :=
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c36_i32_258 : BitVec 32 := 36#32
  let c0_i32_257 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c864_i32_256 : BitVec 32 := 864#32
  let v426 : BitVec 32 := Scalar.subi v38 c864_i32_256
  let v427 : BitVec 32 := Scalar.maxsi c0_i32_257 v426
  let v428 : BitVec 32 := Scalar.minsi c36_i32_258 v427
  let v432 : BitVec 32 := Scalar.subi v428 v425
  let c1_i32_261 : BitVec 32 := 1#32
  let v434 : BitVec 32 := Scalar.divsi v432 c1_i32_261
  let v435 : BitVec 32 := Scalar.muli v434 c1_i32_261
  let v436 : BitVec 32 := Scalar.addi v425 v435
  let c1_i32_263 : BitVec 32 := 1#32
  let arg34 : BitVec 32 := Scf.iv v436 c1_i32_263 k0_t148
  let c0_i32_287_r197 : BitVec 32 := 0#32
  ![arg34.toNat, 0]
@[reducible] def k0_t149_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1815 (k0_t149 : Fin k0_t149_loop.trips) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1569 (v464 : IVec S16 32) : Prop :=
  (∀ a x, ((![v464] : Fin 1 → IVec S16 32) a x).toNat < S100000.size a)
instance k0_chk1569.dec : ∀ (v464 : IVec S16 32), Decidable (k0_chk1569 v464) := fun v464 => decidable_of_iff' _ (Iff.of_eq (k0_chk1569.eq_1 v464))
theorem k0_idx1569_inb : ∀ (v464 : IVec S16 32) (k0_hw1569 : k0_chk1569 v464), ∀ a x, ((![v464] : Fin 1 → IVec S16 32) a x).toNat < S100000.size a := fun v464 k0_hw1569 => k0_hw1569
def k0_off1816 (k0_t149 : Fin k0_t149_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1570 (v471 : IVec S16 32) : Prop :=
  (∀ a x, ((![v471] : Fin 1 → IVec S16 32) a x).toNat < S100000.size a)
instance k0_chk1570.dec : ∀ (v471 : IVec S16 32), Decidable (k0_chk1570 v471) := fun v471 => decidable_of_iff' _ (Iff.of_eq (k0_chk1570.eq_1 v471))
theorem k0_idx1570_inb : ∀ (v471 : IVec S16 32) (k0_hw1570 : k0_chk1570 v471), ∀ a x, ((![v471] : Fin 1 → IVec S16 32) a x).toNat < S100000.size a := fun v471 k0_hw1570 => k0_hw1570
def k0_off1817 (k0_t149 : Fin k0_t149_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1571 (v478 : IVec S16 32) : Prop :=
  (∀ a x, ((![v478] : Fin 1 → IVec S16 32) a x).toNat < S100000.size a)
instance k0_chk1571.dec : ∀ (v478 : IVec S16 32), Decidable (k0_chk1571 v478) := fun v478 => decidable_of_iff' _ (Iff.of_eq (k0_chk1571.eq_1 v478))
theorem k0_idx1571_inb : ∀ (v478 : IVec S16 32) (k0_hw1571 : k0_chk1571 v478), ∀ a x, ((![v478] : Fin 1 → IVec S16 32) a x).toNat < S100000.size a := fun v478 k0_hw1571 => k0_hw1571
def k0_off1818 (k0_t149 : Fin k0_t149_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1572 (v485 : IVec S16 32) : Prop :=
  (∀ a x, ((![v485] : Fin 1 → IVec S16 32) a x).toNat < S100000.size a)
instance k0_chk1572.dec : ∀ (v485 : IVec S16 32), Decidable (k0_chk1572 v485) := fun v485 => decidable_of_iff' _ (Iff.of_eq (k0_chk1572.eq_1 v485))
theorem k0_idx1572_inb : ∀ (v485 : IVec S16 32) (k0_hw1572 : k0_chk1572 v485), ∀ a x, ((![v485] : Fin 1 → IVec S16 32) a x).toNat < S100000.size a := fun v485 k0_hw1572 => k0_hw1572
def k0_off1819 (k0_t149 : Fin k0_t149_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1573 (v492 : IVec S16 32) : Prop :=
  (∀ a x, ((![v492] : Fin 1 → IVec S16 32) a x).toNat < S100000.size a)
instance k0_chk1573.dec : ∀ (v492 : IVec S16 32), Decidable (k0_chk1573 v492) := fun v492 => decidable_of_iff' _ (Iff.of_eq (k0_chk1573.eq_1 v492))
theorem k0_idx1573_inb : ∀ (v492 : IVec S16 32) (k0_hw1573 : k0_chk1573 v492), ∀ a x, ((![v492] : Fin 1 → IVec S16 32) a x).toNat < S100000.size a := fun v492 k0_hw1573 => k0_hw1573
def k0_off1820 (k0_t149 : Fin k0_t149_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1574 (v499 : IVec S16 32) : Prop :=
  (∀ a x, ((![v499] : Fin 1 → IVec S16 32) a x).toNat < S100000.size a)
instance k0_chk1574.dec : ∀ (v499 : IVec S16 32), Decidable (k0_chk1574 v499) := fun v499 => decidable_of_iff' _ (Iff.of_eq (k0_chk1574.eq_1 v499))
theorem k0_idx1574_inb : ∀ (v499 : IVec S16 32) (k0_hw1574 : k0_chk1574 v499), ∀ a x, ((![v499] : Fin 1 → IVec S16 32) a x).toNat < S100000.size a := fun v499 k0_hw1574 => k0_hw1574
def k0_off1821 (k0_t149 : Fin k0_t149_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1575 (v506 : IVec S16 32) : Prop :=
  (∀ a x, ((![v506] : Fin 1 → IVec S16 32) a x).toNat < S100000.size a)
instance k0_chk1575.dec : ∀ (v506 : IVec S16 32), Decidable (k0_chk1575 v506) := fun v506 => decidable_of_iff' _ (Iff.of_eq (k0_chk1575.eq_1 v506))
theorem k0_idx1575_inb : ∀ (v506 : IVec S16 32) (k0_hw1575 : k0_chk1575 v506), ∀ a x, ((![v506] : Fin 1 → IVec S16 32) a x).toNat < S100000.size a := fun v506 k0_hw1575 => k0_hw1575
def k0_off1822 (k0_t149 : Fin k0_t149_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1576 (v513 : IVec S16 32) : Prop :=
  (∀ a x, ((![v513] : Fin 1 → IVec S16 32) a x).toNat < S100000.size a)
instance k0_chk1576.dec : ∀ (v513 : IVec S16 32), Decidable (k0_chk1576 v513) := fun v513 => decidable_of_iff' _ (Iff.of_eq (k0_chk1576.eq_1 v513))
theorem k0_idx1576_inb : ∀ (v513 : IVec S16 32) (k0_hw1576 : k0_chk1576 v513), ∀ a x, ((![v513] : Fin 1 → IVec S16 32) a x).toNat < S100000.size a := fun v513 k0_hw1576 => k0_hw1576
def k0_off1823 (k0_t149 : Fin k0_t149_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1577 (v520 : IVec S16 32) : Prop :=
  (∀ a x, ((![v520] : Fin 1 → IVec S16 32) a x).toNat < S100000.size a)
instance k0_chk1577.dec : ∀ (v520 : IVec S16 32), Decidable (k0_chk1577 v520) := fun v520 => decidable_of_iff' _ (Iff.of_eq (k0_chk1577.eq_1 v520))
theorem k0_idx1577_inb : ∀ (v520 : IVec S16 32) (k0_hw1577 : k0_chk1577 v520), ∀ a x, ((![v520] : Fin 1 → IVec S16 32) a x).toNat < S100000.size a := fun v520 k0_hw1577 => k0_hw1577
def k0_off1824 (k0_t149 : Fin k0_t149_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1578 (v527 : IVec S16 32) : Prop :=
  (∀ a x, ((![v527] : Fin 1 → IVec S16 32) a x).toNat < S100000.size a)
instance k0_chk1578.dec : ∀ (v527 : IVec S16 32), Decidable (k0_chk1578 v527) := fun v527 => decidable_of_iff' _ (Iff.of_eq (k0_chk1578.eq_1 v527))
theorem k0_idx1578_inb : ∀ (v527 : IVec S16 32) (k0_hw1578 : k0_chk1578 v527), ∀ a x, ((![v527] : Fin 1 → IVec S16 32) a x).toNat < S100000.size a := fun v527 k0_hw1578 => k0_hw1578
def k0_off1825 (k0_t149 : Fin k0_t149_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1579 (v534 : IVec S16 32) : Prop :=
  (∀ a x, ((![v534] : Fin 1 → IVec S16 32) a x).toNat < S100000.size a)
instance k0_chk1579.dec : ∀ (v534 : IVec S16 32), Decidable (k0_chk1579 v534) := fun v534 => decidable_of_iff' _ (Iff.of_eq (k0_chk1579.eq_1 v534))
theorem k0_idx1579_inb : ∀ (v534 : IVec S16 32) (k0_hw1579 : k0_chk1579 v534), ∀ a x, ((![v534] : Fin 1 → IVec S16 32) a x).toNat < S100000.size a := fun v534 k0_hw1579 => k0_hw1579
def k0_off1826 (k0_t149 : Fin k0_t149_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1580 (v541 : IVec S16 32) : Prop :=
  (∀ a x, ((![v541] : Fin 1 → IVec S16 32) a x).toNat < S100000.size a)
instance k0_chk1580.dec : ∀ (v541 : IVec S16 32), Decidable (k0_chk1580 v541) := fun v541 => decidable_of_iff' _ (Iff.of_eq (k0_chk1580.eq_1 v541))
theorem k0_idx1580_inb : ∀ (v541 : IVec S16 32) (k0_hw1580 : k0_chk1580 v541), ∀ a x, ((![v541] : Fin 1 → IVec S16 32) a x).toNat < S100000.size a := fun v541 k0_hw1580 => k0_hw1580
def k0_off1827 (k0_t149 : Fin k0_t149_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1581 (v548 : IVec S16 32) : Prop :=
  (∀ a x, ((![v548] : Fin 1 → IVec S16 32) a x).toNat < S100000.size a)
instance k0_chk1581.dec : ∀ (v548 : IVec S16 32), Decidable (k0_chk1581 v548) := fun v548 => decidable_of_iff' _ (Iff.of_eq (k0_chk1581.eq_1 v548))
theorem k0_idx1581_inb : ∀ (v548 : IVec S16 32) (k0_hw1581 : k0_chk1581 v548), ∀ a x, ((![v548] : Fin 1 → IVec S16 32) a x).toNat < S100000.size a := fun v548 k0_hw1581 => k0_hw1581
def k0_off1828 (k0_t149 : Fin k0_t149_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1582 (v555 : IVec S16 32) : Prop :=
  (∀ a x, ((![v555] : Fin 1 → IVec S16 32) a x).toNat < S100000.size a)
instance k0_chk1582.dec : ∀ (v555 : IVec S16 32), Decidable (k0_chk1582 v555) := fun v555 => decidable_of_iff' _ (Iff.of_eq (k0_chk1582.eq_1 v555))
theorem k0_idx1582_inb : ∀ (v555 : IVec S16 32) (k0_hw1582 : k0_chk1582 v555), ∀ a x, ((![v555] : Fin 1 → IVec S16 32) a x).toNat < S100000.size a := fun v555 k0_hw1582 => k0_hw1582
def k0_off1829 (k0_t149 : Fin k0_t149_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1583 (v562 : IVec S16 32) : Prop :=
  (∀ a x, ((![v562] : Fin 1 → IVec S16 32) a x).toNat < S100000.size a)
instance k0_chk1583.dec : ∀ (v562 : IVec S16 32), Decidable (k0_chk1583 v562) := fun v562 => decidable_of_iff' _ (Iff.of_eq (k0_chk1583.eq_1 v562))
theorem k0_idx1583_inb : ∀ (v562 : IVec S16 32) (k0_hw1583 : k0_chk1583 v562), ∀ a x, ((![v562] : Fin 1 → IVec S16 32) a x).toNat < S100000.size a := fun v562 k0_hw1583 => k0_hw1583
def k0_off1830 (k0_t149 : Fin k0_t149_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1584 (v569 : IVec S16 32) : Prop :=
  (∀ a x, ((![v569] : Fin 1 → IVec S16 32) a x).toNat < S100000.size a)
instance k0_chk1584.dec : ∀ (v569 : IVec S16 32), Decidable (k0_chk1584 v569) := fun v569 => decidable_of_iff' _ (Iff.of_eq (k0_chk1584.eq_1 v569))
theorem k0_idx1584_inb : ∀ (v569 : IVec S16 32) (k0_hw1584 : k0_chk1584 v569), ∀ a x, ((![v569] : Fin 1 → IVec S16 32) a x).toNat < S100000.size a := fun v569 k0_hw1584 => k0_hw1584
def k0_off1831 (k0_t149 : Fin k0_t149_loop.trips) : Fin 1 → Nat :=
  let c0_i32_275 : BitVec 32 := 0#32
  let c1_i32_277 : BitVec 32 := 1#32
  let arg36 : BitVec 32 := Scf.iv c0_i32_275 c1_i32_277 k0_t149
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1832 (i : grid0.Coords) (k0_t148 : Fin (k0_t148_loop i).trips) : Fin 2 → Nat :=
  let c864_i32_279 : BitVec 32 := 864#32
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c36_i32_258 : BitVec 32 := 36#32
  let c0_i32_257 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c864_i32_256 : BitVec 32 := 864#32
  let v426 : BitVec 32 := Scalar.subi v38 c864_i32_256
  let v427 : BitVec 32 := Scalar.maxsi c0_i32_257 v426
  let v428 : BitVec 32 := Scalar.minsi c36_i32_258 v427
  let v432 : BitVec 32 := Scalar.subi v428 v425
  let c1_i32_261 : BitVec 32 := 1#32
  let v434 : BitVec 32 := Scalar.divsi v432 c1_i32_261
  let v435 : BitVec 32 := Scalar.muli v434 c1_i32_261
  let v436 : BitVec 32 := Scalar.addi v425 v435
  let c1_i32_263 : BitVec 32 := 1#32
  let arg34 : BitVec 32 := Scf.iv v436 c1_i32_263 k0_t148
  let v457 : BitVec 32 := Scalar.addi c864_i32_279 arg34
  let c0_i32_287_r198 : BitVec 32 := 0#32
  ![v457.toNat, 0]
@[reducible] def k0_t150_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1833 (k0_t150 : Fin k0_t150_loop.trips) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1585 (v464 : IVec S16 32) : Prop :=
  (∀ a x, ((![v464] : Fin 1 → IVec S16 32) a x).toNat < S100000.size a)
instance k0_chk1585.dec : ∀ (v464 : IVec S16 32), Decidable (k0_chk1585 v464) := fun v464 => decidable_of_iff' _ (Iff.of_eq (k0_chk1585.eq_1 v464))
theorem k0_idx1585_inb : ∀ (v464 : IVec S16 32) (k0_hw1585 : k0_chk1585 v464), ∀ a x, ((![v464] : Fin 1 → IVec S16 32) a x).toNat < S100000.size a := fun v464 k0_hw1585 => k0_hw1585
def k0_off1834 (k0_t150 : Fin k0_t150_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1586 (v471 : IVec S16 32) : Prop :=
  (∀ a x, ((![v471] : Fin 1 → IVec S16 32) a x).toNat < S100000.size a)
instance k0_chk1586.dec : ∀ (v471 : IVec S16 32), Decidable (k0_chk1586 v471) := fun v471 => decidable_of_iff' _ (Iff.of_eq (k0_chk1586.eq_1 v471))
theorem k0_idx1586_inb : ∀ (v471 : IVec S16 32) (k0_hw1586 : k0_chk1586 v471), ∀ a x, ((![v471] : Fin 1 → IVec S16 32) a x).toNat < S100000.size a := fun v471 k0_hw1586 => k0_hw1586
def k0_off1835 (k0_t150 : Fin k0_t150_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1587 (v478 : IVec S16 32) : Prop :=
  (∀ a x, ((![v478] : Fin 1 → IVec S16 32) a x).toNat < S100000.size a)
instance k0_chk1587.dec : ∀ (v478 : IVec S16 32), Decidable (k0_chk1587 v478) := fun v478 => decidable_of_iff' _ (Iff.of_eq (k0_chk1587.eq_1 v478))
theorem k0_idx1587_inb : ∀ (v478 : IVec S16 32) (k0_hw1587 : k0_chk1587 v478), ∀ a x, ((![v478] : Fin 1 → IVec S16 32) a x).toNat < S100000.size a := fun v478 k0_hw1587 => k0_hw1587
def k0_off1836 (k0_t150 : Fin k0_t150_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1588 (v485 : IVec S16 32) : Prop :=
  (∀ a x, ((![v485] : Fin 1 → IVec S16 32) a x).toNat < S100000.size a)
instance k0_chk1588.dec : ∀ (v485 : IVec S16 32), Decidable (k0_chk1588 v485) := fun v485 => decidable_of_iff' _ (Iff.of_eq (k0_chk1588.eq_1 v485))
theorem k0_idx1588_inb : ∀ (v485 : IVec S16 32) (k0_hw1588 : k0_chk1588 v485), ∀ a x, ((![v485] : Fin 1 → IVec S16 32) a x).toNat < S100000.size a := fun v485 k0_hw1588 => k0_hw1588
def k0_off1837 (k0_t150 : Fin k0_t150_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1589 (v492 : IVec S16 32) : Prop :=
  (∀ a x, ((![v492] : Fin 1 → IVec S16 32) a x).toNat < S100000.size a)
instance k0_chk1589.dec : ∀ (v492 : IVec S16 32), Decidable (k0_chk1589 v492) := fun v492 => decidable_of_iff' _ (Iff.of_eq (k0_chk1589.eq_1 v492))
theorem k0_idx1589_inb : ∀ (v492 : IVec S16 32) (k0_hw1589 : k0_chk1589 v492), ∀ a x, ((![v492] : Fin 1 → IVec S16 32) a x).toNat < S100000.size a := fun v492 k0_hw1589 => k0_hw1589
def k0_off1838 (k0_t150 : Fin k0_t150_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1590 (v499 : IVec S16 32) : Prop :=
  (∀ a x, ((![v499] : Fin 1 → IVec S16 32) a x).toNat < S100000.size a)
instance k0_chk1590.dec : ∀ (v499 : IVec S16 32), Decidable (k0_chk1590 v499) := fun v499 => decidable_of_iff' _ (Iff.of_eq (k0_chk1590.eq_1 v499))
theorem k0_idx1590_inb : ∀ (v499 : IVec S16 32) (k0_hw1590 : k0_chk1590 v499), ∀ a x, ((![v499] : Fin 1 → IVec S16 32) a x).toNat < S100000.size a := fun v499 k0_hw1590 => k0_hw1590
def k0_off1839 (k0_t150 : Fin k0_t150_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1591 (v506 : IVec S16 32) : Prop :=
  (∀ a x, ((![v506] : Fin 1 → IVec S16 32) a x).toNat < S100000.size a)
instance k0_chk1591.dec : ∀ (v506 : IVec S16 32), Decidable (k0_chk1591 v506) := fun v506 => decidable_of_iff' _ (Iff.of_eq (k0_chk1591.eq_1 v506))
theorem k0_idx1591_inb : ∀ (v506 : IVec S16 32) (k0_hw1591 : k0_chk1591 v506), ∀ a x, ((![v506] : Fin 1 → IVec S16 32) a x).toNat < S100000.size a := fun v506 k0_hw1591 => k0_hw1591
def k0_off1840 (k0_t150 : Fin k0_t150_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1592 (v513 : IVec S16 32) : Prop :=
  (∀ a x, ((![v513] : Fin 1 → IVec S16 32) a x).toNat < S100000.size a)
instance k0_chk1592.dec : ∀ (v513 : IVec S16 32), Decidable (k0_chk1592 v513) := fun v513 => decidable_of_iff' _ (Iff.of_eq (k0_chk1592.eq_1 v513))
theorem k0_idx1592_inb : ∀ (v513 : IVec S16 32) (k0_hw1592 : k0_chk1592 v513), ∀ a x, ((![v513] : Fin 1 → IVec S16 32) a x).toNat < S100000.size a := fun v513 k0_hw1592 => k0_hw1592
def k0_off1841 (k0_t150 : Fin k0_t150_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1593 (v520 : IVec S16 32) : Prop :=
  (∀ a x, ((![v520] : Fin 1 → IVec S16 32) a x).toNat < S100000.size a)
instance k0_chk1593.dec : ∀ (v520 : IVec S16 32), Decidable (k0_chk1593 v520) := fun v520 => decidable_of_iff' _ (Iff.of_eq (k0_chk1593.eq_1 v520))
theorem k0_idx1593_inb : ∀ (v520 : IVec S16 32) (k0_hw1593 : k0_chk1593 v520), ∀ a x, ((![v520] : Fin 1 → IVec S16 32) a x).toNat < S100000.size a := fun v520 k0_hw1593 => k0_hw1593
def k0_off1842 (k0_t150 : Fin k0_t150_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1594 (v527 : IVec S16 32) : Prop :=
  (∀ a x, ((![v527] : Fin 1 → IVec S16 32) a x).toNat < S100000.size a)
instance k0_chk1594.dec : ∀ (v527 : IVec S16 32), Decidable (k0_chk1594 v527) := fun v527 => decidable_of_iff' _ (Iff.of_eq (k0_chk1594.eq_1 v527))
theorem k0_idx1594_inb : ∀ (v527 : IVec S16 32) (k0_hw1594 : k0_chk1594 v527), ∀ a x, ((![v527] : Fin 1 → IVec S16 32) a x).toNat < S100000.size a := fun v527 k0_hw1594 => k0_hw1594
def k0_off1843 (k0_t150 : Fin k0_t150_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1595 (v534 : IVec S16 32) : Prop :=
  (∀ a x, ((![v534] : Fin 1 → IVec S16 32) a x).toNat < S100000.size a)
instance k0_chk1595.dec : ∀ (v534 : IVec S16 32), Decidable (k0_chk1595 v534) := fun v534 => decidable_of_iff' _ (Iff.of_eq (k0_chk1595.eq_1 v534))
theorem k0_idx1595_inb : ∀ (v534 : IVec S16 32) (k0_hw1595 : k0_chk1595 v534), ∀ a x, ((![v534] : Fin 1 → IVec S16 32) a x).toNat < S100000.size a := fun v534 k0_hw1595 => k0_hw1595
def k0_off1844 (k0_t150 : Fin k0_t150_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1596 (v541 : IVec S16 32) : Prop :=
  (∀ a x, ((![v541] : Fin 1 → IVec S16 32) a x).toNat < S100000.size a)
instance k0_chk1596.dec : ∀ (v541 : IVec S16 32), Decidable (k0_chk1596 v541) := fun v541 => decidable_of_iff' _ (Iff.of_eq (k0_chk1596.eq_1 v541))
theorem k0_idx1596_inb : ∀ (v541 : IVec S16 32) (k0_hw1596 : k0_chk1596 v541), ∀ a x, ((![v541] : Fin 1 → IVec S16 32) a x).toNat < S100000.size a := fun v541 k0_hw1596 => k0_hw1596
def k0_off1845 (k0_t150 : Fin k0_t150_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1597 (v548 : IVec S16 32) : Prop :=
  (∀ a x, ((![v548] : Fin 1 → IVec S16 32) a x).toNat < S100000.size a)
instance k0_chk1597.dec : ∀ (v548 : IVec S16 32), Decidable (k0_chk1597 v548) := fun v548 => decidable_of_iff' _ (Iff.of_eq (k0_chk1597.eq_1 v548))
theorem k0_idx1597_inb : ∀ (v548 : IVec S16 32) (k0_hw1597 : k0_chk1597 v548), ∀ a x, ((![v548] : Fin 1 → IVec S16 32) a x).toNat < S100000.size a := fun v548 k0_hw1597 => k0_hw1597
def k0_off1846 (k0_t150 : Fin k0_t150_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1598 (v555 : IVec S16 32) : Prop :=
  (∀ a x, ((![v555] : Fin 1 → IVec S16 32) a x).toNat < S100000.size a)
instance k0_chk1598.dec : ∀ (v555 : IVec S16 32), Decidable (k0_chk1598 v555) := fun v555 => decidable_of_iff' _ (Iff.of_eq (k0_chk1598.eq_1 v555))
theorem k0_idx1598_inb : ∀ (v555 : IVec S16 32) (k0_hw1598 : k0_chk1598 v555), ∀ a x, ((![v555] : Fin 1 → IVec S16 32) a x).toNat < S100000.size a := fun v555 k0_hw1598 => k0_hw1598
def k0_off1847 (k0_t150 : Fin k0_t150_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1599 (v562 : IVec S16 32) : Prop :=
  (∀ a x, ((![v562] : Fin 1 → IVec S16 32) a x).toNat < S100000.size a)
instance k0_chk1599.dec : ∀ (v562 : IVec S16 32), Decidable (k0_chk1599 v562) := fun v562 => decidable_of_iff' _ (Iff.of_eq (k0_chk1599.eq_1 v562))
theorem k0_idx1599_inb : ∀ (v562 : IVec S16 32) (k0_hw1599 : k0_chk1599 v562), ∀ a x, ((![v562] : Fin 1 → IVec S16 32) a x).toNat < S100000.size a := fun v562 k0_hw1599 => k0_hw1599
def k0_off1848 (k0_t150 : Fin k0_t150_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1600 (v569 : IVec S16 32) : Prop :=
  (∀ a x, ((![v569] : Fin 1 → IVec S16 32) a x).toNat < S100000.size a)
instance k0_chk1600.dec : ∀ (v569 : IVec S16 32), Decidable (k0_chk1600 v569) := fun v569 => decidable_of_iff' _ (Iff.of_eq (k0_chk1600.eq_1 v569))
theorem k0_idx1600_inb : ∀ (v569 : IVec S16 32) (k0_hw1600 : k0_chk1600 v569), ∀ a x, ((![v569] : Fin 1 → IVec S16 32) a x).toNat < S100000.size a := fun v569 k0_hw1600 => k0_hw1600
def k0_off1849 (k0_t150 : Fin k0_t150_loop.trips) : Fin 1 → Nat :=
  let c0_i32_281 : BitVec 32 := 0#32
  let c1_i32_283 : BitVec 32 := 1#32
  let arg36 : BitVec 32 := Scf.iv c0_i32_281 c1_i32_283 k0_t150
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1850 (i : grid0.Coords) (k0_t148 : Fin (k0_t148_loop i).trips) : Fin 2 → Nat :=
  let c864_i32_285 : BitVec 32 := 864#32
  let c36_i32_255 : BitVec 32 := 36#32
  let c0_i32_254 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c864_i32 : BitVec 32 := 864#32
  let v423 : BitVec 32 := Scalar.subi v19 c864_i32
  let v424 : BitVec 32 := Scalar.maxsi c0_i32_254 v423
  let v425 : BitVec 32 := Scalar.minsi c36_i32_255 v424
  let c36_i32_258 : BitVec 32 := 36#32
  let c0_i32_257 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c864_i32_256 : BitVec 32 := 864#32
  let v426 : BitVec 32 := Scalar.subi v38 c864_i32_256
  let v427 : BitVec 32 := Scalar.maxsi c0_i32_257 v426
  let v428 : BitVec 32 := Scalar.minsi c36_i32_258 v427
  let v432 : BitVec 32 := Scalar.subi v428 v425
  let c1_i32_261 : BitVec 32 := 1#32
  let v434 : BitVec 32 := Scalar.divsi v432 c1_i32_261
  let v435 : BitVec 32 := Scalar.muli v434 c1_i32_261
  let v436 : BitVec 32 := Scalar.addi v425 v435
  let c1_i32_263 : BitVec 32 := 1#32
  let arg34 : BitVec 32 := Scf.iv v436 c1_i32_263 k0_t148
  let v460 : BitVec 32 := Scalar.addi c864_i32_285 arg34
  let c8192_i32_r199 : BitVec 32 := 8192#32
  ![v460.toNat, 8192]
@[reducible] def k0_t151_loop (i : grid0.Coords) : Scf.Loop 32 :=
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c36_i32_268 : BitVec 32 := 36#32
  let c0_i32_267 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c900_i32_266 : BitVec 32 := 900#32
  let v442 : BitVec 32 := Scalar.subi v38 c900_i32_266
  let v443 : BitVec 32 := Scalar.maxsi c0_i32_267 v442
  let v444 : BitVec 32 := Scalar.minsi c36_i32_268 v443
  let v448 : BitVec 32 := Scalar.subi v444 v441
  let c1_i32_271 : BitVec 32 := 1#32
  let v450 : BitVec 32 := Scalar.divsi v448 c1_i32_271
  let v451 : BitVec 32 := Scalar.muli v450 c1_i32_271
  let v452 : BitVec 32 := Scalar.addi v441 v451
  let c1_i32_272 : BitVec 32 := 1#32
  ⟨v441, v452, c1_i32_272⟩
def k0_off1851 (i : grid0.Coords) (k0_t151 : Fin (k0_t151_loop i).trips) : Fin 2 → Nat :=
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c1_i32_272 : BitVec 32 := 1#32
  let arg34 : BitVec 32 := Scf.iv v441 c1_i32_272 k0_t151
  let c0_i32_287_r202 : BitVec 32 := 0#32
  ![arg34.toNat, 0]
@[reducible] def k0_t152_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1852 (k0_t152 : Fin k0_t152_loop.trips) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1601 (v464 : IVec S16 32) : Prop :=
  (∀ a x, ((![v464] : Fin 1 → IVec S16 32) a x).toNat < S100000.size a)
instance k0_chk1601.dec : ∀ (v464 : IVec S16 32), Decidable (k0_chk1601 v464) := fun v464 => decidable_of_iff' _ (Iff.of_eq (k0_chk1601.eq_1 v464))
theorem k0_idx1601_inb : ∀ (v464 : IVec S16 32) (k0_hw1601 : k0_chk1601 v464), ∀ a x, ((![v464] : Fin 1 → IVec S16 32) a x).toNat < S100000.size a := fun v464 k0_hw1601 => k0_hw1601
def k0_off1853 (k0_t152 : Fin k0_t152_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1602 (v471 : IVec S16 32) : Prop :=
  (∀ a x, ((![v471] : Fin 1 → IVec S16 32) a x).toNat < S100000.size a)
instance k0_chk1602.dec : ∀ (v471 : IVec S16 32), Decidable (k0_chk1602 v471) := fun v471 => decidable_of_iff' _ (Iff.of_eq (k0_chk1602.eq_1 v471))
theorem k0_idx1602_inb : ∀ (v471 : IVec S16 32) (k0_hw1602 : k0_chk1602 v471), ∀ a x, ((![v471] : Fin 1 → IVec S16 32) a x).toNat < S100000.size a := fun v471 k0_hw1602 => k0_hw1602
def k0_off1854 (k0_t152 : Fin k0_t152_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1603 (v478 : IVec S16 32) : Prop :=
  (∀ a x, ((![v478] : Fin 1 → IVec S16 32) a x).toNat < S100000.size a)
instance k0_chk1603.dec : ∀ (v478 : IVec S16 32), Decidable (k0_chk1603 v478) := fun v478 => decidable_of_iff' _ (Iff.of_eq (k0_chk1603.eq_1 v478))
theorem k0_idx1603_inb : ∀ (v478 : IVec S16 32) (k0_hw1603 : k0_chk1603 v478), ∀ a x, ((![v478] : Fin 1 → IVec S16 32) a x).toNat < S100000.size a := fun v478 k0_hw1603 => k0_hw1603
def k0_off1855 (k0_t152 : Fin k0_t152_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1604 (v485 : IVec S16 32) : Prop :=
  (∀ a x, ((![v485] : Fin 1 → IVec S16 32) a x).toNat < S100000.size a)
instance k0_chk1604.dec : ∀ (v485 : IVec S16 32), Decidable (k0_chk1604 v485) := fun v485 => decidable_of_iff' _ (Iff.of_eq (k0_chk1604.eq_1 v485))
theorem k0_idx1604_inb : ∀ (v485 : IVec S16 32) (k0_hw1604 : k0_chk1604 v485), ∀ a x, ((![v485] : Fin 1 → IVec S16 32) a x).toNat < S100000.size a := fun v485 k0_hw1604 => k0_hw1604
def k0_off1856 (k0_t152 : Fin k0_t152_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1605 (v492 : IVec S16 32) : Prop :=
  (∀ a x, ((![v492] : Fin 1 → IVec S16 32) a x).toNat < S100000.size a)
instance k0_chk1605.dec : ∀ (v492 : IVec S16 32), Decidable (k0_chk1605 v492) := fun v492 => decidable_of_iff' _ (Iff.of_eq (k0_chk1605.eq_1 v492))
theorem k0_idx1605_inb : ∀ (v492 : IVec S16 32) (k0_hw1605 : k0_chk1605 v492), ∀ a x, ((![v492] : Fin 1 → IVec S16 32) a x).toNat < S100000.size a := fun v492 k0_hw1605 => k0_hw1605
def k0_off1857 (k0_t152 : Fin k0_t152_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1606 (v499 : IVec S16 32) : Prop :=
  (∀ a x, ((![v499] : Fin 1 → IVec S16 32) a x).toNat < S100000.size a)
instance k0_chk1606.dec : ∀ (v499 : IVec S16 32), Decidable (k0_chk1606 v499) := fun v499 => decidable_of_iff' _ (Iff.of_eq (k0_chk1606.eq_1 v499))
theorem k0_idx1606_inb : ∀ (v499 : IVec S16 32) (k0_hw1606 : k0_chk1606 v499), ∀ a x, ((![v499] : Fin 1 → IVec S16 32) a x).toNat < S100000.size a := fun v499 k0_hw1606 => k0_hw1606
def k0_off1858 (k0_t152 : Fin k0_t152_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1607 (v506 : IVec S16 32) : Prop :=
  (∀ a x, ((![v506] : Fin 1 → IVec S16 32) a x).toNat < S100000.size a)
instance k0_chk1607.dec : ∀ (v506 : IVec S16 32), Decidable (k0_chk1607 v506) := fun v506 => decidable_of_iff' _ (Iff.of_eq (k0_chk1607.eq_1 v506))
theorem k0_idx1607_inb : ∀ (v506 : IVec S16 32) (k0_hw1607 : k0_chk1607 v506), ∀ a x, ((![v506] : Fin 1 → IVec S16 32) a x).toNat < S100000.size a := fun v506 k0_hw1607 => k0_hw1607
def k0_off1859 (k0_t152 : Fin k0_t152_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1608 (v513 : IVec S16 32) : Prop :=
  (∀ a x, ((![v513] : Fin 1 → IVec S16 32) a x).toNat < S100000.size a)
instance k0_chk1608.dec : ∀ (v513 : IVec S16 32), Decidable (k0_chk1608 v513) := fun v513 => decidable_of_iff' _ (Iff.of_eq (k0_chk1608.eq_1 v513))
theorem k0_idx1608_inb : ∀ (v513 : IVec S16 32) (k0_hw1608 : k0_chk1608 v513), ∀ a x, ((![v513] : Fin 1 → IVec S16 32) a x).toNat < S100000.size a := fun v513 k0_hw1608 => k0_hw1608
def k0_off1860 (k0_t152 : Fin k0_t152_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1609 (v520 : IVec S16 32) : Prop :=
  (∀ a x, ((![v520] : Fin 1 → IVec S16 32) a x).toNat < S100000.size a)
instance k0_chk1609.dec : ∀ (v520 : IVec S16 32), Decidable (k0_chk1609 v520) := fun v520 => decidable_of_iff' _ (Iff.of_eq (k0_chk1609.eq_1 v520))
theorem k0_idx1609_inb : ∀ (v520 : IVec S16 32) (k0_hw1609 : k0_chk1609 v520), ∀ a x, ((![v520] : Fin 1 → IVec S16 32) a x).toNat < S100000.size a := fun v520 k0_hw1609 => k0_hw1609
def k0_off1861 (k0_t152 : Fin k0_t152_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1610 (v527 : IVec S16 32) : Prop :=
  (∀ a x, ((![v527] : Fin 1 → IVec S16 32) a x).toNat < S100000.size a)
instance k0_chk1610.dec : ∀ (v527 : IVec S16 32), Decidable (k0_chk1610 v527) := fun v527 => decidable_of_iff' _ (Iff.of_eq (k0_chk1610.eq_1 v527))
theorem k0_idx1610_inb : ∀ (v527 : IVec S16 32) (k0_hw1610 : k0_chk1610 v527), ∀ a x, ((![v527] : Fin 1 → IVec S16 32) a x).toNat < S100000.size a := fun v527 k0_hw1610 => k0_hw1610
def k0_off1862 (k0_t152 : Fin k0_t152_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1611 (v534 : IVec S16 32) : Prop :=
  (∀ a x, ((![v534] : Fin 1 → IVec S16 32) a x).toNat < S100000.size a)
instance k0_chk1611.dec : ∀ (v534 : IVec S16 32), Decidable (k0_chk1611 v534) := fun v534 => decidable_of_iff' _ (Iff.of_eq (k0_chk1611.eq_1 v534))
theorem k0_idx1611_inb : ∀ (v534 : IVec S16 32) (k0_hw1611 : k0_chk1611 v534), ∀ a x, ((![v534] : Fin 1 → IVec S16 32) a x).toNat < S100000.size a := fun v534 k0_hw1611 => k0_hw1611
def k0_off1863 (k0_t152 : Fin k0_t152_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1612 (v541 : IVec S16 32) : Prop :=
  (∀ a x, ((![v541] : Fin 1 → IVec S16 32) a x).toNat < S100000.size a)
instance k0_chk1612.dec : ∀ (v541 : IVec S16 32), Decidable (k0_chk1612 v541) := fun v541 => decidable_of_iff' _ (Iff.of_eq (k0_chk1612.eq_1 v541))
theorem k0_idx1612_inb : ∀ (v541 : IVec S16 32) (k0_hw1612 : k0_chk1612 v541), ∀ a x, ((![v541] : Fin 1 → IVec S16 32) a x).toNat < S100000.size a := fun v541 k0_hw1612 => k0_hw1612
def k0_off1864 (k0_t152 : Fin k0_t152_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1613 (v548 : IVec S16 32) : Prop :=
  (∀ a x, ((![v548] : Fin 1 → IVec S16 32) a x).toNat < S100000.size a)
instance k0_chk1613.dec : ∀ (v548 : IVec S16 32), Decidable (k0_chk1613 v548) := fun v548 => decidable_of_iff' _ (Iff.of_eq (k0_chk1613.eq_1 v548))
theorem k0_idx1613_inb : ∀ (v548 : IVec S16 32) (k0_hw1613 : k0_chk1613 v548), ∀ a x, ((![v548] : Fin 1 → IVec S16 32) a x).toNat < S100000.size a := fun v548 k0_hw1613 => k0_hw1613
def k0_off1865 (k0_t152 : Fin k0_t152_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1614 (v555 : IVec S16 32) : Prop :=
  (∀ a x, ((![v555] : Fin 1 → IVec S16 32) a x).toNat < S100000.size a)
instance k0_chk1614.dec : ∀ (v555 : IVec S16 32), Decidable (k0_chk1614 v555) := fun v555 => decidable_of_iff' _ (Iff.of_eq (k0_chk1614.eq_1 v555))
theorem k0_idx1614_inb : ∀ (v555 : IVec S16 32) (k0_hw1614 : k0_chk1614 v555), ∀ a x, ((![v555] : Fin 1 → IVec S16 32) a x).toNat < S100000.size a := fun v555 k0_hw1614 => k0_hw1614
def k0_off1866 (k0_t152 : Fin k0_t152_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1615 (v562 : IVec S16 32) : Prop :=
  (∀ a x, ((![v562] : Fin 1 → IVec S16 32) a x).toNat < S100000.size a)
instance k0_chk1615.dec : ∀ (v562 : IVec S16 32), Decidable (k0_chk1615 v562) := fun v562 => decidable_of_iff' _ (Iff.of_eq (k0_chk1615.eq_1 v562))
theorem k0_idx1615_inb : ∀ (v562 : IVec S16 32) (k0_hw1615 : k0_chk1615 v562), ∀ a x, ((![v562] : Fin 1 → IVec S16 32) a x).toNat < S100000.size a := fun v562 k0_hw1615 => k0_hw1615
def k0_off1867 (k0_t152 : Fin k0_t152_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1616 (v569 : IVec S16 32) : Prop :=
  (∀ a x, ((![v569] : Fin 1 → IVec S16 32) a x).toNat < S100000.size a)
instance k0_chk1616.dec : ∀ (v569 : IVec S16 32), Decidable (k0_chk1616 v569) := fun v569 => decidable_of_iff' _ (Iff.of_eq (k0_chk1616.eq_1 v569))
theorem k0_idx1616_inb : ∀ (v569 : IVec S16 32) (k0_hw1616 : k0_chk1616 v569), ∀ a x, ((![v569] : Fin 1 → IVec S16 32) a x).toNat < S100000.size a := fun v569 k0_hw1616 => k0_hw1616
def k0_off1868 (k0_t152 : Fin k0_t152_loop.trips) : Fin 1 → Nat :=
  let c0_i32_275 : BitVec 32 := 0#32
  let c1_i32_277 : BitVec 32 := 1#32
  let arg36 : BitVec 32 := Scf.iv c0_i32_275 c1_i32_277 k0_t152
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1869 (i : grid0.Coords) (k0_t151 : Fin (k0_t151_loop i).trips) : Fin 2 → Nat :=
  let c900_i32_279 : BitVec 32 := 900#32
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c1_i32_272 : BitVec 32 := 1#32
  let arg34 : BitVec 32 := Scf.iv v441 c1_i32_272 k0_t151
  let v457 : BitVec 32 := Scalar.addi c900_i32_279 arg34
  let c0_i32_287_r203 : BitVec 32 := 0#32
  ![v457.toNat, 0]
@[reducible] def k0_t153_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1870 (k0_t153 : Fin k0_t153_loop.trips) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1617 (v464 : IVec S16 32) : Prop :=
  (∀ a x, ((![v464] : Fin 1 → IVec S16 32) a x).toNat < S100000.size a)
instance k0_chk1617.dec : ∀ (v464 : IVec S16 32), Decidable (k0_chk1617 v464) := fun v464 => decidable_of_iff' _ (Iff.of_eq (k0_chk1617.eq_1 v464))
theorem k0_idx1617_inb : ∀ (v464 : IVec S16 32) (k0_hw1617 : k0_chk1617 v464), ∀ a x, ((![v464] : Fin 1 → IVec S16 32) a x).toNat < S100000.size a := fun v464 k0_hw1617 => k0_hw1617
def k0_off1871 (k0_t153 : Fin k0_t153_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1618 (v471 : IVec S16 32) : Prop :=
  (∀ a x, ((![v471] : Fin 1 → IVec S16 32) a x).toNat < S100000.size a)
instance k0_chk1618.dec : ∀ (v471 : IVec S16 32), Decidable (k0_chk1618 v471) := fun v471 => decidable_of_iff' _ (Iff.of_eq (k0_chk1618.eq_1 v471))
theorem k0_idx1618_inb : ∀ (v471 : IVec S16 32) (k0_hw1618 : k0_chk1618 v471), ∀ a x, ((![v471] : Fin 1 → IVec S16 32) a x).toNat < S100000.size a := fun v471 k0_hw1618 => k0_hw1618
def k0_off1872 (k0_t153 : Fin k0_t153_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1619 (v478 : IVec S16 32) : Prop :=
  (∀ a x, ((![v478] : Fin 1 → IVec S16 32) a x).toNat < S100000.size a)
instance k0_chk1619.dec : ∀ (v478 : IVec S16 32), Decidable (k0_chk1619 v478) := fun v478 => decidable_of_iff' _ (Iff.of_eq (k0_chk1619.eq_1 v478))
theorem k0_idx1619_inb : ∀ (v478 : IVec S16 32) (k0_hw1619 : k0_chk1619 v478), ∀ a x, ((![v478] : Fin 1 → IVec S16 32) a x).toNat < S100000.size a := fun v478 k0_hw1619 => k0_hw1619
def k0_off1873 (k0_t153 : Fin k0_t153_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1620 (v485 : IVec S16 32) : Prop :=
  (∀ a x, ((![v485] : Fin 1 → IVec S16 32) a x).toNat < S100000.size a)
instance k0_chk1620.dec : ∀ (v485 : IVec S16 32), Decidable (k0_chk1620 v485) := fun v485 => decidable_of_iff' _ (Iff.of_eq (k0_chk1620.eq_1 v485))
theorem k0_idx1620_inb : ∀ (v485 : IVec S16 32) (k0_hw1620 : k0_chk1620 v485), ∀ a x, ((![v485] : Fin 1 → IVec S16 32) a x).toNat < S100000.size a := fun v485 k0_hw1620 => k0_hw1620
def k0_off1874 (k0_t153 : Fin k0_t153_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1621 (v492 : IVec S16 32) : Prop :=
  (∀ a x, ((![v492] : Fin 1 → IVec S16 32) a x).toNat < S100000.size a)
instance k0_chk1621.dec : ∀ (v492 : IVec S16 32), Decidable (k0_chk1621 v492) := fun v492 => decidable_of_iff' _ (Iff.of_eq (k0_chk1621.eq_1 v492))
theorem k0_idx1621_inb : ∀ (v492 : IVec S16 32) (k0_hw1621 : k0_chk1621 v492), ∀ a x, ((![v492] : Fin 1 → IVec S16 32) a x).toNat < S100000.size a := fun v492 k0_hw1621 => k0_hw1621
def k0_off1875 (k0_t153 : Fin k0_t153_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1622 (v499 : IVec S16 32) : Prop :=
  (∀ a x, ((![v499] : Fin 1 → IVec S16 32) a x).toNat < S100000.size a)
instance k0_chk1622.dec : ∀ (v499 : IVec S16 32), Decidable (k0_chk1622 v499) := fun v499 => decidable_of_iff' _ (Iff.of_eq (k0_chk1622.eq_1 v499))
theorem k0_idx1622_inb : ∀ (v499 : IVec S16 32) (k0_hw1622 : k0_chk1622 v499), ∀ a x, ((![v499] : Fin 1 → IVec S16 32) a x).toNat < S100000.size a := fun v499 k0_hw1622 => k0_hw1622
def k0_off1876 (k0_t153 : Fin k0_t153_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1623 (v506 : IVec S16 32) : Prop :=
  (∀ a x, ((![v506] : Fin 1 → IVec S16 32) a x).toNat < S100000.size a)
instance k0_chk1623.dec : ∀ (v506 : IVec S16 32), Decidable (k0_chk1623 v506) := fun v506 => decidable_of_iff' _ (Iff.of_eq (k0_chk1623.eq_1 v506))
theorem k0_idx1623_inb : ∀ (v506 : IVec S16 32) (k0_hw1623 : k0_chk1623 v506), ∀ a x, ((![v506] : Fin 1 → IVec S16 32) a x).toNat < S100000.size a := fun v506 k0_hw1623 => k0_hw1623
def k0_off1877 (k0_t153 : Fin k0_t153_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1624 (v513 : IVec S16 32) : Prop :=
  (∀ a x, ((![v513] : Fin 1 → IVec S16 32) a x).toNat < S100000.size a)
instance k0_chk1624.dec : ∀ (v513 : IVec S16 32), Decidable (k0_chk1624 v513) := fun v513 => decidable_of_iff' _ (Iff.of_eq (k0_chk1624.eq_1 v513))
theorem k0_idx1624_inb : ∀ (v513 : IVec S16 32) (k0_hw1624 : k0_chk1624 v513), ∀ a x, ((![v513] : Fin 1 → IVec S16 32) a x).toNat < S100000.size a := fun v513 k0_hw1624 => k0_hw1624
def k0_off1878 (k0_t153 : Fin k0_t153_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1625 (v520 : IVec S16 32) : Prop :=
  (∀ a x, ((![v520] : Fin 1 → IVec S16 32) a x).toNat < S100000.size a)
instance k0_chk1625.dec : ∀ (v520 : IVec S16 32), Decidable (k0_chk1625 v520) := fun v520 => decidable_of_iff' _ (Iff.of_eq (k0_chk1625.eq_1 v520))
theorem k0_idx1625_inb : ∀ (v520 : IVec S16 32) (k0_hw1625 : k0_chk1625 v520), ∀ a x, ((![v520] : Fin 1 → IVec S16 32) a x).toNat < S100000.size a := fun v520 k0_hw1625 => k0_hw1625
def k0_off1879 (k0_t153 : Fin k0_t153_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1626 (v527 : IVec S16 32) : Prop :=
  (∀ a x, ((![v527] : Fin 1 → IVec S16 32) a x).toNat < S100000.size a)
instance k0_chk1626.dec : ∀ (v527 : IVec S16 32), Decidable (k0_chk1626 v527) := fun v527 => decidable_of_iff' _ (Iff.of_eq (k0_chk1626.eq_1 v527))
theorem k0_idx1626_inb : ∀ (v527 : IVec S16 32) (k0_hw1626 : k0_chk1626 v527), ∀ a x, ((![v527] : Fin 1 → IVec S16 32) a x).toNat < S100000.size a := fun v527 k0_hw1626 => k0_hw1626
def k0_off1880 (k0_t153 : Fin k0_t153_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1627 (v534 : IVec S16 32) : Prop :=
  (∀ a x, ((![v534] : Fin 1 → IVec S16 32) a x).toNat < S100000.size a)
instance k0_chk1627.dec : ∀ (v534 : IVec S16 32), Decidable (k0_chk1627 v534) := fun v534 => decidable_of_iff' _ (Iff.of_eq (k0_chk1627.eq_1 v534))
theorem k0_idx1627_inb : ∀ (v534 : IVec S16 32) (k0_hw1627 : k0_chk1627 v534), ∀ a x, ((![v534] : Fin 1 → IVec S16 32) a x).toNat < S100000.size a := fun v534 k0_hw1627 => k0_hw1627
def k0_off1881 (k0_t153 : Fin k0_t153_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1628 (v541 : IVec S16 32) : Prop :=
  (∀ a x, ((![v541] : Fin 1 → IVec S16 32) a x).toNat < S100000.size a)
instance k0_chk1628.dec : ∀ (v541 : IVec S16 32), Decidable (k0_chk1628 v541) := fun v541 => decidable_of_iff' _ (Iff.of_eq (k0_chk1628.eq_1 v541))
theorem k0_idx1628_inb : ∀ (v541 : IVec S16 32) (k0_hw1628 : k0_chk1628 v541), ∀ a x, ((![v541] : Fin 1 → IVec S16 32) a x).toNat < S100000.size a := fun v541 k0_hw1628 => k0_hw1628
def k0_off1882 (k0_t153 : Fin k0_t153_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1629 (v548 : IVec S16 32) : Prop :=
  (∀ a x, ((![v548] : Fin 1 → IVec S16 32) a x).toNat < S100000.size a)
instance k0_chk1629.dec : ∀ (v548 : IVec S16 32), Decidable (k0_chk1629 v548) := fun v548 => decidable_of_iff' _ (Iff.of_eq (k0_chk1629.eq_1 v548))
theorem k0_idx1629_inb : ∀ (v548 : IVec S16 32) (k0_hw1629 : k0_chk1629 v548), ∀ a x, ((![v548] : Fin 1 → IVec S16 32) a x).toNat < S100000.size a := fun v548 k0_hw1629 => k0_hw1629
def k0_off1883 (k0_t153 : Fin k0_t153_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1630 (v555 : IVec S16 32) : Prop :=
  (∀ a x, ((![v555] : Fin 1 → IVec S16 32) a x).toNat < S100000.size a)
instance k0_chk1630.dec : ∀ (v555 : IVec S16 32), Decidable (k0_chk1630 v555) := fun v555 => decidable_of_iff' _ (Iff.of_eq (k0_chk1630.eq_1 v555))
theorem k0_idx1630_inb : ∀ (v555 : IVec S16 32) (k0_hw1630 : k0_chk1630 v555), ∀ a x, ((![v555] : Fin 1 → IVec S16 32) a x).toNat < S100000.size a := fun v555 k0_hw1630 => k0_hw1630
def k0_off1884 (k0_t153 : Fin k0_t153_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1631 (v562 : IVec S16 32) : Prop :=
  (∀ a x, ((![v562] : Fin 1 → IVec S16 32) a x).toNat < S100000.size a)
instance k0_chk1631.dec : ∀ (v562 : IVec S16 32), Decidable (k0_chk1631 v562) := fun v562 => decidable_of_iff' _ (Iff.of_eq (k0_chk1631.eq_1 v562))
theorem k0_idx1631_inb : ∀ (v562 : IVec S16 32) (k0_hw1631 : k0_chk1631 v562), ∀ a x, ((![v562] : Fin 1 → IVec S16 32) a x).toNat < S100000.size a := fun v562 k0_hw1631 => k0_hw1631
def k0_off1885 (k0_t153 : Fin k0_t153_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1632 (v569 : IVec S16 32) : Prop :=
  (∀ a x, ((![v569] : Fin 1 → IVec S16 32) a x).toNat < S100000.size a)
instance k0_chk1632.dec : ∀ (v569 : IVec S16 32), Decidable (k0_chk1632 v569) := fun v569 => decidable_of_iff' _ (Iff.of_eq (k0_chk1632.eq_1 v569))
theorem k0_idx1632_inb : ∀ (v569 : IVec S16 32) (k0_hw1632 : k0_chk1632 v569), ∀ a x, ((![v569] : Fin 1 → IVec S16 32) a x).toNat < S100000.size a := fun v569 k0_hw1632 => k0_hw1632
def k0_off1886 (k0_t153 : Fin k0_t153_loop.trips) : Fin 1 → Nat :=
  let c0_i32_281 : BitVec 32 := 0#32
  let c1_i32_283 : BitVec 32 := 1#32
  let arg36 : BitVec 32 := Scf.iv c0_i32_281 c1_i32_283 k0_t153
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1887 (i : grid0.Coords) (k0_t151 : Fin (k0_t151_loop i).trips) : Fin 2 → Nat :=
  let c900_i32_285 : BitVec 32 := 900#32
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c1_i32_272 : BitVec 32 := 1#32
  let arg34 : BitVec 32 := Scf.iv v441 c1_i32_272 k0_t151
  let v460 : BitVec 32 := Scalar.addi c900_i32_285 arg34
  let c8192_i32_r204 : BitVec 32 := 8192#32
  ![v460.toNat, 8192]
@[reducible] def k0_t154_loop (i : grid0.Coords) : Scf.Loop 32 :=
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c36_i32_268 : BitVec 32 := 36#32
  let c0_i32_267 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c900_i32_266 : BitVec 32 := 900#32
  let v442 : BitVec 32 := Scalar.subi v38 c900_i32_266
  let v443 : BitVec 32 := Scalar.maxsi c0_i32_267 v442
  let v444 : BitVec 32 := Scalar.minsi c36_i32_268 v443
  let v448 : BitVec 32 := Scalar.subi v444 v441
  let c1_i32_271 : BitVec 32 := 1#32
  let v450 : BitVec 32 := Scalar.divsi v448 c1_i32_271
  let v451 : BitVec 32 := Scalar.muli v450 c1_i32_271
  let v452 : BitVec 32 := Scalar.addi v441 v451
  let v449 : BitVec 32 := Scalar.addi v441 v448
  let c1_i32_273 : BitVec 32 := 1#32
  ⟨v452, v449, c1_i32_273⟩
def k0_off1888 (i : grid0.Coords) (k0_t154 : Fin (k0_t154_loop i).trips) : Fin 2 → Nat :=
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c36_i32_268 : BitVec 32 := 36#32
  let c0_i32_267 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c900_i32_266 : BitVec 32 := 900#32
  let v442 : BitVec 32 := Scalar.subi v38 c900_i32_266
  let v443 : BitVec 32 := Scalar.maxsi c0_i32_267 v442
  let v444 : BitVec 32 := Scalar.minsi c36_i32_268 v443
  let v448 : BitVec 32 := Scalar.subi v444 v441
  let c1_i32_271 : BitVec 32 := 1#32
  let v450 : BitVec 32 := Scalar.divsi v448 c1_i32_271
  let v451 : BitVec 32 := Scalar.muli v450 c1_i32_271
  let v452 : BitVec 32 := Scalar.addi v441 v451
  let c1_i32_273 : BitVec 32 := 1#32
  let arg34 : BitVec 32 := Scf.iv v452 c1_i32_273 k0_t154
  let c0_i32_287_r205 : BitVec 32 := 0#32
  ![arg34.toNat, 0]
@[reducible] def k0_t155_loop : Scf.Loop 32 :=
  let c0_i32_275 : BitVec 32 := 0#32
  let c32_i32_276 : BitVec 32 := 32#32
  let v455 : BitVec 32 := Scalar.addi c0_i32_275 c32_i32_276
  let c1_i32_277 : BitVec 32 := 1#32
  ⟨c0_i32_275, v455, c1_i32_277⟩
def k0_off1889 (k0_t155 : Fin k0_t155_loop.trips) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1633 (v464 : IVec S16 32) : Prop :=
  (∀ a x, ((![v464] : Fin 1 → IVec S16 32) a x).toNat < S100000.size a)
instance k0_chk1633.dec : ∀ (v464 : IVec S16 32), Decidable (k0_chk1633 v464) := fun v464 => decidable_of_iff' _ (Iff.of_eq (k0_chk1633.eq_1 v464))
theorem k0_idx1633_inb : ∀ (v464 : IVec S16 32) (k0_hw1633 : k0_chk1633 v464), ∀ a x, ((![v464] : Fin 1 → IVec S16 32) a x).toNat < S100000.size a := fun v464 k0_hw1633 => k0_hw1633
def k0_off1890 (k0_t155 : Fin k0_t155_loop.trips) (c0_i32_288 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1634 (v471 : IVec S16 32) : Prop :=
  (∀ a x, ((![v471] : Fin 1 → IVec S16 32) a x).toNat < S100000.size a)
instance k0_chk1634.dec : ∀ (v471 : IVec S16 32), Decidable (k0_chk1634 v471) := fun v471 => decidable_of_iff' _ (Iff.of_eq (k0_chk1634.eq_1 v471))
theorem k0_idx1634_inb : ∀ (v471 : IVec S16 32) (k0_hw1634 : k0_chk1634 v471), ∀ a x, ((![v471] : Fin 1 → IVec S16 32) a x).toNat < S100000.size a := fun v471 k0_hw1634 => k0_hw1634
def k0_off1891 (k0_t155 : Fin k0_t155_loop.trips) (c16_i32_289 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1635 (v478 : IVec S16 32) : Prop :=
  (∀ a x, ((![v478] : Fin 1 → IVec S16 32) a x).toNat < S100000.size a)
instance k0_chk1635.dec : ∀ (v478 : IVec S16 32), Decidable (k0_chk1635 v478) := fun v478 => decidable_of_iff' _ (Iff.of_eq (k0_chk1635.eq_1 v478))
theorem k0_idx1635_inb : ∀ (v478 : IVec S16 32) (k0_hw1635 : k0_chk1635 v478), ∀ a x, ((![v478] : Fin 1 → IVec S16 32) a x).toNat < S100000.size a := fun v478 k0_hw1635 => k0_hw1635
def k0_off1892 (k0_t155 : Fin k0_t155_loop.trips) (c32_i32_291 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1636 (v485 : IVec S16 32) : Prop :=
  (∀ a x, ((![v485] : Fin 1 → IVec S16 32) a x).toNat < S100000.size a)
instance k0_chk1636.dec : ∀ (v485 : IVec S16 32), Decidable (k0_chk1636 v485) := fun v485 => decidable_of_iff' _ (Iff.of_eq (k0_chk1636.eq_1 v485))
theorem k0_idx1636_inb : ∀ (v485 : IVec S16 32) (k0_hw1636 : k0_chk1636 v485), ∀ a x, ((![v485] : Fin 1 → IVec S16 32) a x).toNat < S100000.size a := fun v485 k0_hw1636 => k0_hw1636
def k0_off1893 (k0_t155 : Fin k0_t155_loop.trips) (c48_i32_292 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1637 (v492 : IVec S16 32) : Prop :=
  (∀ a x, ((![v492] : Fin 1 → IVec S16 32) a x).toNat < S100000.size a)
instance k0_chk1637.dec : ∀ (v492 : IVec S16 32), Decidable (k0_chk1637 v492) := fun v492 => decidable_of_iff' _ (Iff.of_eq (k0_chk1637.eq_1 v492))
theorem k0_idx1637_inb : ∀ (v492 : IVec S16 32) (k0_hw1637 : k0_chk1637 v492), ∀ a x, ((![v492] : Fin 1 → IVec S16 32) a x).toNat < S100000.size a := fun v492 k0_hw1637 => k0_hw1637
def k0_off1894 (k0_t155 : Fin k0_t155_loop.trips) (c64_i32_293 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1638 (v499 : IVec S16 32) : Prop :=
  (∀ a x, ((![v499] : Fin 1 → IVec S16 32) a x).toNat < S100000.size a)
instance k0_chk1638.dec : ∀ (v499 : IVec S16 32), Decidable (k0_chk1638 v499) := fun v499 => decidable_of_iff' _ (Iff.of_eq (k0_chk1638.eq_1 v499))
theorem k0_idx1638_inb : ∀ (v499 : IVec S16 32) (k0_hw1638 : k0_chk1638 v499), ∀ a x, ((![v499] : Fin 1 → IVec S16 32) a x).toNat < S100000.size a := fun v499 k0_hw1638 => k0_hw1638
def k0_off1895 (k0_t155 : Fin k0_t155_loop.trips) (c80_i32_294 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1639 (v506 : IVec S16 32) : Prop :=
  (∀ a x, ((![v506] : Fin 1 → IVec S16 32) a x).toNat < S100000.size a)
instance k0_chk1639.dec : ∀ (v506 : IVec S16 32), Decidable (k0_chk1639 v506) := fun v506 => decidable_of_iff' _ (Iff.of_eq (k0_chk1639.eq_1 v506))
theorem k0_idx1639_inb : ∀ (v506 : IVec S16 32) (k0_hw1639 : k0_chk1639 v506), ∀ a x, ((![v506] : Fin 1 → IVec S16 32) a x).toNat < S100000.size a := fun v506 k0_hw1639 => k0_hw1639
def k0_off1896 (k0_t155 : Fin k0_t155_loop.trips) (c96_i32_295 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1640 (v513 : IVec S16 32) : Prop :=
  (∀ a x, ((![v513] : Fin 1 → IVec S16 32) a x).toNat < S100000.size a)
instance k0_chk1640.dec : ∀ (v513 : IVec S16 32), Decidable (k0_chk1640 v513) := fun v513 => decidable_of_iff' _ (Iff.of_eq (k0_chk1640.eq_1 v513))
theorem k0_idx1640_inb : ∀ (v513 : IVec S16 32) (k0_hw1640 : k0_chk1640 v513), ∀ a x, ((![v513] : Fin 1 → IVec S16 32) a x).toNat < S100000.size a := fun v513 k0_hw1640 => k0_hw1640
def k0_off1897 (k0_t155 : Fin k0_t155_loop.trips) (c112_i32_296 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1641 (v520 : IVec S16 32) : Prop :=
  (∀ a x, ((![v520] : Fin 1 → IVec S16 32) a x).toNat < S100000.size a)
instance k0_chk1641.dec : ∀ (v520 : IVec S16 32), Decidable (k0_chk1641 v520) := fun v520 => decidable_of_iff' _ (Iff.of_eq (k0_chk1641.eq_1 v520))
theorem k0_idx1641_inb : ∀ (v520 : IVec S16 32) (k0_hw1641 : k0_chk1641 v520), ∀ a x, ((![v520] : Fin 1 → IVec S16 32) a x).toNat < S100000.size a := fun v520 k0_hw1641 => k0_hw1641
def k0_off1898 (k0_t155 : Fin k0_t155_loop.trips) (c128_i32_297 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1642 (v527 : IVec S16 32) : Prop :=
  (∀ a x, ((![v527] : Fin 1 → IVec S16 32) a x).toNat < S100000.size a)
instance k0_chk1642.dec : ∀ (v527 : IVec S16 32), Decidable (k0_chk1642 v527) := fun v527 => decidable_of_iff' _ (Iff.of_eq (k0_chk1642.eq_1 v527))
theorem k0_idx1642_inb : ∀ (v527 : IVec S16 32) (k0_hw1642 : k0_chk1642 v527), ∀ a x, ((![v527] : Fin 1 → IVec S16 32) a x).toNat < S100000.size a := fun v527 k0_hw1642 => k0_hw1642
def k0_off1899 (k0_t155 : Fin k0_t155_loop.trips) (c144_i32_299 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1643 (v534 : IVec S16 32) : Prop :=
  (∀ a x, ((![v534] : Fin 1 → IVec S16 32) a x).toNat < S100000.size a)
instance k0_chk1643.dec : ∀ (v534 : IVec S16 32), Decidable (k0_chk1643 v534) := fun v534 => decidable_of_iff' _ (Iff.of_eq (k0_chk1643.eq_1 v534))
theorem k0_idx1643_inb : ∀ (v534 : IVec S16 32) (k0_hw1643 : k0_chk1643 v534), ∀ a x, ((![v534] : Fin 1 → IVec S16 32) a x).toNat < S100000.size a := fun v534 k0_hw1643 => k0_hw1643
def k0_off1900 (k0_t155 : Fin k0_t155_loop.trips) (c160_i32_300 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1644 (v541 : IVec S16 32) : Prop :=
  (∀ a x, ((![v541] : Fin 1 → IVec S16 32) a x).toNat < S100000.size a)
instance k0_chk1644.dec : ∀ (v541 : IVec S16 32), Decidable (k0_chk1644 v541) := fun v541 => decidable_of_iff' _ (Iff.of_eq (k0_chk1644.eq_1 v541))
theorem k0_idx1644_inb : ∀ (v541 : IVec S16 32) (k0_hw1644 : k0_chk1644 v541), ∀ a x, ((![v541] : Fin 1 → IVec S16 32) a x).toNat < S100000.size a := fun v541 k0_hw1644 => k0_hw1644
def k0_off1901 (k0_t155 : Fin k0_t155_loop.trips) (c176_i32_301 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1645 (v548 : IVec S16 32) : Prop :=
  (∀ a x, ((![v548] : Fin 1 → IVec S16 32) a x).toNat < S100000.size a)
instance k0_chk1645.dec : ∀ (v548 : IVec S16 32), Decidable (k0_chk1645 v548) := fun v548 => decidable_of_iff' _ (Iff.of_eq (k0_chk1645.eq_1 v548))
theorem k0_idx1645_inb : ∀ (v548 : IVec S16 32) (k0_hw1645 : k0_chk1645 v548), ∀ a x, ((![v548] : Fin 1 → IVec S16 32) a x).toNat < S100000.size a := fun v548 k0_hw1645 => k0_hw1645
def k0_off1902 (k0_t155 : Fin k0_t155_loop.trips) (c192_i32_302 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1646 (v555 : IVec S16 32) : Prop :=
  (∀ a x, ((![v555] : Fin 1 → IVec S16 32) a x).toNat < S100000.size a)
instance k0_chk1646.dec : ∀ (v555 : IVec S16 32), Decidable (k0_chk1646 v555) := fun v555 => decidable_of_iff' _ (Iff.of_eq (k0_chk1646.eq_1 v555))
theorem k0_idx1646_inb : ∀ (v555 : IVec S16 32) (k0_hw1646 : k0_chk1646 v555), ∀ a x, ((![v555] : Fin 1 → IVec S16 32) a x).toNat < S100000.size a := fun v555 k0_hw1646 => k0_hw1646
def k0_off1903 (k0_t155 : Fin k0_t155_loop.trips) (c208_i32_303 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1647 (v562 : IVec S16 32) : Prop :=
  (∀ a x, ((![v562] : Fin 1 → IVec S16 32) a x).toNat < S100000.size a)
instance k0_chk1647.dec : ∀ (v562 : IVec S16 32), Decidable (k0_chk1647 v562) := fun v562 => decidable_of_iff' _ (Iff.of_eq (k0_chk1647.eq_1 v562))
theorem k0_idx1647_inb : ∀ (v562 : IVec S16 32) (k0_hw1647 : k0_chk1647 v562), ∀ a x, ((![v562] : Fin 1 → IVec S16 32) a x).toNat < S100000.size a := fun v562 k0_hw1647 => k0_hw1647
def k0_off1904 (k0_t155 : Fin k0_t155_loop.trips) (c224_i32_304 : BitVec 32) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1648 (v569 : IVec S16 32) : Prop :=
  (∀ a x, ((![v569] : Fin 1 → IVec S16 32) a x).toNat < S100000.size a)
instance k0_chk1648.dec : ∀ (v569 : IVec S16 32), Decidable (k0_chk1648 v569) := fun v569 => decidable_of_iff' _ (Iff.of_eq (k0_chk1648.eq_1 v569))
theorem k0_idx1648_inb : ∀ (v569 : IVec S16 32) (k0_hw1648 : k0_chk1648 v569), ∀ a x, ((![v569] : Fin 1 → IVec S16 32) a x).toNat < S100000.size a := fun v569 k0_hw1648 => k0_hw1648
def k0_off1905 (k0_t155 : Fin k0_t155_loop.trips) : Fin 1 → Nat :=
  let c0_i32_275 : BitVec 32 := 0#32
  let c1_i32_277 : BitVec 32 := 1#32
  let arg36 : BitVec 32 := Scf.iv c0_i32_275 c1_i32_277 k0_t155
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1906 (i : grid0.Coords) (k0_t154 : Fin (k0_t154_loop i).trips) : Fin 2 → Nat :=
  let c900_i32_279 : BitVec 32 := 900#32
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c36_i32_268 : BitVec 32 := 36#32
  let c0_i32_267 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c900_i32_266 : BitVec 32 := 900#32
  let v442 : BitVec 32 := Scalar.subi v38 c900_i32_266
  let v443 : BitVec 32 := Scalar.maxsi c0_i32_267 v442
  let v444 : BitVec 32 := Scalar.minsi c36_i32_268 v443
  let v448 : BitVec 32 := Scalar.subi v444 v441
  let c1_i32_271 : BitVec 32 := 1#32
  let v450 : BitVec 32 := Scalar.divsi v448 c1_i32_271
  let v451 : BitVec 32 := Scalar.muli v450 c1_i32_271
  let v452 : BitVec 32 := Scalar.addi v441 v451
  let c1_i32_273 : BitVec 32 := 1#32
  let arg34 : BitVec 32 := Scf.iv v452 c1_i32_273 k0_t154
  let v457 : BitVec 32 := Scalar.addi c900_i32_279 arg34
  let c0_i32_287_r206 : BitVec 32 := 0#32
  ![v457.toNat, 0]
@[reducible] def k0_t156_loop : Scf.Loop 32 :=
  let c0_i32_281 : BitVec 32 := 0#32
  let c32_i32_282 : BitVec 32 := 32#32
  let v458 : BitVec 32 := Scalar.addi c0_i32_281 c32_i32_282
  let c1_i32_283 : BitVec 32 := 1#32
  ⟨c0_i32_281, v458, c1_i32_283⟩
def k0_off1907 (k0_t156 : Fin k0_t156_loop.trips) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let c0_i32_287 : BitVec 32 := 0#32
  let v462 : BitVec 32 := Scalar.addi v461 c0_i32_287
  let v463 : Index := Scalar.indexCast v462
  ![v463.toNat]

def k0_chk1649 (v464 : IVec S16 32) : Prop :=
  (∀ a x, ((![v464] : Fin 1 → IVec S16 32) a x).toNat < S100000.size a)
instance k0_chk1649.dec : ∀ (v464 : IVec S16 32), Decidable (k0_chk1649 v464) := fun v464 => decidable_of_iff' _ (Iff.of_eq (k0_chk1649.eq_1 v464))
theorem k0_idx1649_inb : ∀ (v464 : IVec S16 32) (k0_hw1649 : k0_chk1649 v464), ∀ a x, ((![v464] : Fin 1 → IVec S16 32) a x).toNat < S100000.size a := fun v464 k0_hw1649 => k0_hw1649
def k0_off1908 (k0_t156 : Fin k0_t156_loop.trips) (c0_i32_288 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v466 : BitVec 32 := Scalar.addi v461 c0_i32_288
  let v467 : Index := Scalar.indexCast v466
  ![v467.toNat]

def k0_chk1650 (v471 : IVec S16 32) : Prop :=
  (∀ a x, ((![v471] : Fin 1 → IVec S16 32) a x).toNat < S100000.size a)
instance k0_chk1650.dec : ∀ (v471 : IVec S16 32), Decidable (k0_chk1650 v471) := fun v471 => decidable_of_iff' _ (Iff.of_eq (k0_chk1650.eq_1 v471))
theorem k0_idx1650_inb : ∀ (v471 : IVec S16 32) (k0_hw1650 : k0_chk1650 v471), ∀ a x, ((![v471] : Fin 1 → IVec S16 32) a x).toNat < S100000.size a := fun v471 k0_hw1650 => k0_hw1650
def k0_off1909 (k0_t156 : Fin k0_t156_loop.trips) (c16_i32_289 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v473 : BitVec 32 := Scalar.addi v461 c16_i32_289
  let v474 : Index := Scalar.indexCast v473
  ![v474.toNat]

def k0_chk1651 (v478 : IVec S16 32) : Prop :=
  (∀ a x, ((![v478] : Fin 1 → IVec S16 32) a x).toNat < S100000.size a)
instance k0_chk1651.dec : ∀ (v478 : IVec S16 32), Decidable (k0_chk1651 v478) := fun v478 => decidable_of_iff' _ (Iff.of_eq (k0_chk1651.eq_1 v478))
theorem k0_idx1651_inb : ∀ (v478 : IVec S16 32) (k0_hw1651 : k0_chk1651 v478), ∀ a x, ((![v478] : Fin 1 → IVec S16 32) a x).toNat < S100000.size a := fun v478 k0_hw1651 => k0_hw1651
def k0_off1910 (k0_t156 : Fin k0_t156_loop.trips) (c32_i32_291 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v480 : BitVec 32 := Scalar.addi v461 c32_i32_291
  let v481 : Index := Scalar.indexCast v480
  ![v481.toNat]

def k0_chk1652 (v485 : IVec S16 32) : Prop :=
  (∀ a x, ((![v485] : Fin 1 → IVec S16 32) a x).toNat < S100000.size a)
instance k0_chk1652.dec : ∀ (v485 : IVec S16 32), Decidable (k0_chk1652 v485) := fun v485 => decidable_of_iff' _ (Iff.of_eq (k0_chk1652.eq_1 v485))
theorem k0_idx1652_inb : ∀ (v485 : IVec S16 32) (k0_hw1652 : k0_chk1652 v485), ∀ a x, ((![v485] : Fin 1 → IVec S16 32) a x).toNat < S100000.size a := fun v485 k0_hw1652 => k0_hw1652
def k0_off1911 (k0_t156 : Fin k0_t156_loop.trips) (c48_i32_292 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v487 : BitVec 32 := Scalar.addi v461 c48_i32_292
  let v488 : Index := Scalar.indexCast v487
  ![v488.toNat]

def k0_chk1653 (v492 : IVec S16 32) : Prop :=
  (∀ a x, ((![v492] : Fin 1 → IVec S16 32) a x).toNat < S100000.size a)
instance k0_chk1653.dec : ∀ (v492 : IVec S16 32), Decidable (k0_chk1653 v492) := fun v492 => decidable_of_iff' _ (Iff.of_eq (k0_chk1653.eq_1 v492))
theorem k0_idx1653_inb : ∀ (v492 : IVec S16 32) (k0_hw1653 : k0_chk1653 v492), ∀ a x, ((![v492] : Fin 1 → IVec S16 32) a x).toNat < S100000.size a := fun v492 k0_hw1653 => k0_hw1653
def k0_off1912 (k0_t156 : Fin k0_t156_loop.trips) (c64_i32_293 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v494 : BitVec 32 := Scalar.addi v461 c64_i32_293
  let v495 : Index := Scalar.indexCast v494
  ![v495.toNat]

def k0_chk1654 (v499 : IVec S16 32) : Prop :=
  (∀ a x, ((![v499] : Fin 1 → IVec S16 32) a x).toNat < S100000.size a)
instance k0_chk1654.dec : ∀ (v499 : IVec S16 32), Decidable (k0_chk1654 v499) := fun v499 => decidable_of_iff' _ (Iff.of_eq (k0_chk1654.eq_1 v499))
theorem k0_idx1654_inb : ∀ (v499 : IVec S16 32) (k0_hw1654 : k0_chk1654 v499), ∀ a x, ((![v499] : Fin 1 → IVec S16 32) a x).toNat < S100000.size a := fun v499 k0_hw1654 => k0_hw1654
def k0_off1913 (k0_t156 : Fin k0_t156_loop.trips) (c80_i32_294 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v501 : BitVec 32 := Scalar.addi v461 c80_i32_294
  let v502 : Index := Scalar.indexCast v501
  ![v502.toNat]

def k0_chk1655 (v506 : IVec S16 32) : Prop :=
  (∀ a x, ((![v506] : Fin 1 → IVec S16 32) a x).toNat < S100000.size a)
instance k0_chk1655.dec : ∀ (v506 : IVec S16 32), Decidable (k0_chk1655 v506) := fun v506 => decidable_of_iff' _ (Iff.of_eq (k0_chk1655.eq_1 v506))
theorem k0_idx1655_inb : ∀ (v506 : IVec S16 32) (k0_hw1655 : k0_chk1655 v506), ∀ a x, ((![v506] : Fin 1 → IVec S16 32) a x).toNat < S100000.size a := fun v506 k0_hw1655 => k0_hw1655
def k0_off1914 (k0_t156 : Fin k0_t156_loop.trips) (c96_i32_295 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v508 : BitVec 32 := Scalar.addi v461 c96_i32_295
  let v509 : Index := Scalar.indexCast v508
  ![v509.toNat]

def k0_chk1656 (v513 : IVec S16 32) : Prop :=
  (∀ a x, ((![v513] : Fin 1 → IVec S16 32) a x).toNat < S100000.size a)
instance k0_chk1656.dec : ∀ (v513 : IVec S16 32), Decidable (k0_chk1656 v513) := fun v513 => decidable_of_iff' _ (Iff.of_eq (k0_chk1656.eq_1 v513))
theorem k0_idx1656_inb : ∀ (v513 : IVec S16 32) (k0_hw1656 : k0_chk1656 v513), ∀ a x, ((![v513] : Fin 1 → IVec S16 32) a x).toNat < S100000.size a := fun v513 k0_hw1656 => k0_hw1656
def k0_off1915 (k0_t156 : Fin k0_t156_loop.trips) (c112_i32_296 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v515 : BitVec 32 := Scalar.addi v461 c112_i32_296
  let v516 : Index := Scalar.indexCast v515
  ![v516.toNat]

def k0_chk1657 (v520 : IVec S16 32) : Prop :=
  (∀ a x, ((![v520] : Fin 1 → IVec S16 32) a x).toNat < S100000.size a)
instance k0_chk1657.dec : ∀ (v520 : IVec S16 32), Decidable (k0_chk1657 v520) := fun v520 => decidable_of_iff' _ (Iff.of_eq (k0_chk1657.eq_1 v520))
theorem k0_idx1657_inb : ∀ (v520 : IVec S16 32) (k0_hw1657 : k0_chk1657 v520), ∀ a x, ((![v520] : Fin 1 → IVec S16 32) a x).toNat < S100000.size a := fun v520 k0_hw1657 => k0_hw1657
def k0_off1916 (k0_t156 : Fin k0_t156_loop.trips) (c128_i32_297 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v522 : BitVec 32 := Scalar.addi v461 c128_i32_297
  let v523 : Index := Scalar.indexCast v522
  ![v523.toNat]

def k0_chk1658 (v527 : IVec S16 32) : Prop :=
  (∀ a x, ((![v527] : Fin 1 → IVec S16 32) a x).toNat < S100000.size a)
instance k0_chk1658.dec : ∀ (v527 : IVec S16 32), Decidable (k0_chk1658 v527) := fun v527 => decidable_of_iff' _ (Iff.of_eq (k0_chk1658.eq_1 v527))
theorem k0_idx1658_inb : ∀ (v527 : IVec S16 32) (k0_hw1658 : k0_chk1658 v527), ∀ a x, ((![v527] : Fin 1 → IVec S16 32) a x).toNat < S100000.size a := fun v527 k0_hw1658 => k0_hw1658
def k0_off1917 (k0_t156 : Fin k0_t156_loop.trips) (c144_i32_299 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v529 : BitVec 32 := Scalar.addi v461 c144_i32_299
  let v530 : Index := Scalar.indexCast v529
  ![v530.toNat]

def k0_chk1659 (v534 : IVec S16 32) : Prop :=
  (∀ a x, ((![v534] : Fin 1 → IVec S16 32) a x).toNat < S100000.size a)
instance k0_chk1659.dec : ∀ (v534 : IVec S16 32), Decidable (k0_chk1659 v534) := fun v534 => decidable_of_iff' _ (Iff.of_eq (k0_chk1659.eq_1 v534))
theorem k0_idx1659_inb : ∀ (v534 : IVec S16 32) (k0_hw1659 : k0_chk1659 v534), ∀ a x, ((![v534] : Fin 1 → IVec S16 32) a x).toNat < S100000.size a := fun v534 k0_hw1659 => k0_hw1659
def k0_off1918 (k0_t156 : Fin k0_t156_loop.trips) (c160_i32_300 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v536 : BitVec 32 := Scalar.addi v461 c160_i32_300
  let v537 : Index := Scalar.indexCast v536
  ![v537.toNat]

def k0_chk1660 (v541 : IVec S16 32) : Prop :=
  (∀ a x, ((![v541] : Fin 1 → IVec S16 32) a x).toNat < S100000.size a)
instance k0_chk1660.dec : ∀ (v541 : IVec S16 32), Decidable (k0_chk1660 v541) := fun v541 => decidable_of_iff' _ (Iff.of_eq (k0_chk1660.eq_1 v541))
theorem k0_idx1660_inb : ∀ (v541 : IVec S16 32) (k0_hw1660 : k0_chk1660 v541), ∀ a x, ((![v541] : Fin 1 → IVec S16 32) a x).toNat < S100000.size a := fun v541 k0_hw1660 => k0_hw1660
def k0_off1919 (k0_t156 : Fin k0_t156_loop.trips) (c176_i32_301 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v543 : BitVec 32 := Scalar.addi v461 c176_i32_301
  let v544 : Index := Scalar.indexCast v543
  ![v544.toNat]

def k0_chk1661 (v548 : IVec S16 32) : Prop :=
  (∀ a x, ((![v548] : Fin 1 → IVec S16 32) a x).toNat < S100000.size a)
instance k0_chk1661.dec : ∀ (v548 : IVec S16 32), Decidable (k0_chk1661 v548) := fun v548 => decidable_of_iff' _ (Iff.of_eq (k0_chk1661.eq_1 v548))
theorem k0_idx1661_inb : ∀ (v548 : IVec S16 32) (k0_hw1661 : k0_chk1661 v548), ∀ a x, ((![v548] : Fin 1 → IVec S16 32) a x).toNat < S100000.size a := fun v548 k0_hw1661 => k0_hw1661
def k0_off1920 (k0_t156 : Fin k0_t156_loop.trips) (c192_i32_302 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v550 : BitVec 32 := Scalar.addi v461 c192_i32_302
  let v551 : Index := Scalar.indexCast v550
  ![v551.toNat]

def k0_chk1662 (v555 : IVec S16 32) : Prop :=
  (∀ a x, ((![v555] : Fin 1 → IVec S16 32) a x).toNat < S100000.size a)
instance k0_chk1662.dec : ∀ (v555 : IVec S16 32), Decidable (k0_chk1662 v555) := fun v555 => decidable_of_iff' _ (Iff.of_eq (k0_chk1662.eq_1 v555))
theorem k0_idx1662_inb : ∀ (v555 : IVec S16 32) (k0_hw1662 : k0_chk1662 v555), ∀ a x, ((![v555] : Fin 1 → IVec S16 32) a x).toNat < S100000.size a := fun v555 k0_hw1662 => k0_hw1662
def k0_off1921 (k0_t156 : Fin k0_t156_loop.trips) (c208_i32_303 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v557 : BitVec 32 := Scalar.addi v461 c208_i32_303
  let v558 : Index := Scalar.indexCast v557
  ![v558.toNat]

def k0_chk1663 (v562 : IVec S16 32) : Prop :=
  (∀ a x, ((![v562] : Fin 1 → IVec S16 32) a x).toNat < S100000.size a)
instance k0_chk1663.dec : ∀ (v562 : IVec S16 32), Decidable (k0_chk1663 v562) := fun v562 => decidable_of_iff' _ (Iff.of_eq (k0_chk1663.eq_1 v562))
theorem k0_idx1663_inb : ∀ (v562 : IVec S16 32) (k0_hw1663 : k0_chk1663 v562), ∀ a x, ((![v562] : Fin 1 → IVec S16 32) a x).toNat < S100000.size a := fun v562 k0_hw1663 => k0_hw1663
def k0_off1922 (k0_t156 : Fin k0_t156_loop.trips) (c224_i32_304 : BitVec 32) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let v564 : BitVec 32 := Scalar.addi v461 c224_i32_304
  let v565 : Index := Scalar.indexCast v564
  ![v565.toNat]

def k0_chk1664 (v569 : IVec S16 32) : Prop :=
  (∀ a x, ((![v569] : Fin 1 → IVec S16 32) a x).toNat < S100000.size a)
instance k0_chk1664.dec : ∀ (v569 : IVec S16 32), Decidable (k0_chk1664 v569) := fun v569 => decidable_of_iff' _ (Iff.of_eq (k0_chk1664.eq_1 v569))
theorem k0_idx1664_inb : ∀ (v569 : IVec S16 32) (k0_hw1664 : k0_chk1664 v569), ∀ a x, ((![v569] : Fin 1 → IVec S16 32) a x).toNat < S100000.size a := fun v569 k0_hw1664 => k0_hw1664
def k0_off1923 (k0_t156 : Fin k0_t156_loop.trips) : Fin 1 → Nat :=
  let c0_i32_281 : BitVec 32 := 0#32
  let c1_i32_283 : BitVec 32 := 1#32
  let arg36 : BitVec 32 := Scf.iv c0_i32_281 c1_i32_283 k0_t156
  let c256_i32 : BitVec 32 := 256#32
  let v461 : BitVec 32 := Scalar.muli arg36 c256_i32
  let c240_i32_305 : BitVec 32 := 240#32
  let v571 : BitVec 32 := Scalar.addi v461 c240_i32_305
  let v572 : Index := Scalar.indexCast v571
  ![v572.toNat]
def k0_off1924 (i : grid0.Coords) (k0_t154 : Fin (k0_t154_loop i).trips) : Fin 2 → Nat :=
  let c900_i32_285 : BitVec 32 := 900#32
  let c36_i32_265 : BitVec 32 := 36#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c936_i32 : BitVec 32 := 936#32
  let v2 : BitVec 32 := Scalar.muli v1 c936_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c900_i32 : BitVec 32 := 900#32
  let v439 : BitVec 32 := Scalar.subi v19 c900_i32
  let v440 : BitVec 32 := Scalar.maxsi c0_i32_264 v439
  let v441 : BitVec 32 := Scalar.minsi c36_i32_265 v440
  let c36_i32_268 : BitVec 32 := 36#32
  let c0_i32_267 : BitVec 32 := 0#32
  let c1_i32_4 : BitVec 32 := 1#32
  let v20 : BitVec 32 := Scalar.addi v1 c1_i32_4
  let c936_i32_5 : BitVec 32 := 936#32
  let v21 : BitVec 32 := Scalar.muli v20 c936_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c900_i32_266 : BitVec 32 := 900#32
  let v442 : BitVec 32 := Scalar.subi v38 c900_i32_266
  let v443 : BitVec 32 := Scalar.maxsi c0_i32_267 v442
  let v444 : BitVec 32 := Scalar.minsi c36_i32_268 v443
  let v448 : BitVec 32 := Scalar.subi v444 v441
  let c1_i32_271 : BitVec 32 := 1#32
  let v450 : BitVec 32 := Scalar.divsi v448 c1_i32_271
  let v451 : BitVec 32 := Scalar.muli v450 c1_i32_271
  let v452 : BitVec 32 := Scalar.addi v441 v451
  let c1_i32_273 : BitVec 32 := 1#32
  let arg34 : BitVec 32 := Scf.iv v452 c1_i32_273 k0_t154
  let v460 : BitVec 32 := Scalar.addi c900_i32_285 arg34
  let c8192_i32_r207 : BitVec 32 := 8192#32
  ![v460.toNat, 8192]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.R1.Facts₀ : Prop where
  hcore0 : grid0.bound 0 ≤ τ.nSC
  hsub0 : grid0.bound 1 ≤ τ.nSub
  k0_t1_ok : ∀ i : grid0.Coords, (k0_t1_loop i).OK
  k0_off1_inb : ∀ (i : grid0.Coords) (k0_t1 : Fin (k0_t1_loop i).trips), ∀ a, (k0_off1 i k0_t1) a + S1x100000.size a ≤ S36x100000.size a
  k0_t2_ok : k0_t2_loop.OK
  k0_off2_inb : ∀ k0_t2 : Fin k0_t2_loop.trips, ∀ a, (k0_off2 k0_t2) a + S16.size a ≤ S8192.size a
  k0_off3_inb : ∀ k0_t2 : Fin k0_t2_loop.trips, ∀ (r : Fin 2), ∀ a, (k0_off3 k0_t2 (BitVec.ofNat 32 (16 * r.val))) a + S16.size a ≤ S8192.size a
  k0_off4_inb : ∀ k0_t2 : Fin k0_t2_loop.trips, ∀ (r : Fin 2), ∀ a, (k0_off4 k0_t2 (BitVec.ofNat 32 (16 + 16 * r.val))) a + S16.size a ≤ S8192.size a
  k0_off5_inb : ∀ k0_t2 : Fin k0_t2_loop.trips, ∀ (r : Fin 2), ∀ a, (k0_off5 k0_t2 (BitVec.ofNat 32 (32 + 16 * r.val))) a + S16.size a ≤ S8192.size a
  k0_off6_inb : ∀ k0_t2 : Fin k0_t2_loop.trips, ∀ (r : Fin 2), ∀ a, (k0_off6 k0_t2 (BitVec.ofNat 32 (48 + 16 * r.val))) a + S16.size a ≤ S8192.size a
  k0_off7_inb : ∀ k0_t2 : Fin k0_t2_loop.trips, ∀ (r : Fin 2), ∀ a, (k0_off7 k0_t2 (BitVec.ofNat 32 (64 + 16 * r.val))) a + S16.size a ≤ S8192.size a
  k0_off8_inb : ∀ k0_t2 : Fin k0_t2_loop.trips, ∀ (r : Fin 2), ∀ a, (k0_off8 k0_t2 (BitVec.ofNat 32 (80 + 16 * r.val))) a + S16.size a ≤ S8192.size a
  k0_off9_inb : ∀ k0_t2 : Fin k0_t2_loop.trips, ∀ (r : Fin 2), ∀ a, (k0_off9 k0_t2 (BitVec.ofNat 32 (96 + 16 * r.val))) a + S16.size a ≤ S8192.size a
  k0_off10_inb : ∀ k0_t2 : Fin k0_t2_loop.trips, ∀ (r : Fin 2), ∀ a, (k0_off10 k0_t2 (BitVec.ofNat 32 (112 + 16 * r.val))) a + S16.size a ≤ S8192.size a
  k0_off11_inb : ∀ k0_t2 : Fin k0_t2_loop.trips, ∀ (r : Fin 2), ∀ a, (k0_off11 k0_t2 (BitVec.ofNat 32 (128 + 16 * r.val))) a + S16.size a ≤ S8192.size a
  k0_off12_inb : ∀ k0_t2 : Fin k0_t2_loop.trips, ∀ (r : Fin 2), ∀ a, (k0_off12 k0_t2 (BitVec.ofNat 32 (144 + 16 * r.val))) a + S16.size a ≤ S8192.size a
  k0_off13_inb : ∀ k0_t2 : Fin k0_t2_loop.trips, ∀ (r : Fin 2), ∀ a, (k0_off13 k0_t2 (BitVec.ofNat 32 (160 + 16 * r.val))) a + S16.size a ≤ S8192.size a
  k0_off14_inb : ∀ k0_t2 : Fin k0_t2_loop.trips, ∀ (r : Fin 2), ∀ a, (k0_off14 k0_t2 (BitVec.ofNat 32 (176 + 16 * r.val))) a + S16.size a ≤ S8192.size a
  k0_off15_inb : ∀ k0_t2 : Fin k0_t2_loop.trips, ∀ (r : Fin 2), ∀ a, (k0_off15 k0_t2 (BitVec.ofNat 32 (192 + 16 * r.val))) a + S16.size a ≤ S8192.size a
  k0_off16_inb : ∀ k0_t2 : Fin k0_t2_loop.trips, ∀ (r : Fin 2), ∀ a, (k0_off16 k0_t2 (BitVec.ofNat 32 (208 + 16 * r.val))) a + S16.size a ≤ S8192.size a
  k0_off17_inb : ∀ k0_t2 : Fin k0_t2_loop.trips, ∀ (r : Fin 2), ∀ a, (k0_off17 k0_t2 (BitVec.ofNat 32 (224 + 16 * r.val))) a + S16.size a ≤ S8192.size a
  k0_off18_inb : ∀ k0_t2 : Fin k0_t2_loop.trips, ∀ a, (k0_off18 k0_t2) a + S16.size a ≤ S8192.size a
  k0_off19_inb : ∀ (i : grid0.Coords) (k0_t1 : Fin (k0_t1_loop i).trips), ∀ a, (k0_off19 i k0_t1) a + S1x8192.size a ≤ S936x16384.size a
  k0_t3_ok : k0_t3_loop.OK
  k0_off20_inb : ∀ k0_t3 : Fin k0_t3_loop.trips, ∀ a, (k0_off20 k0_t3) a + S16.size a ≤ S8192.size a
  k0_off21_inb : ∀ k0_t3 : Fin k0_t3_loop.trips, ∀ (r : Fin 2), ∀ a, (k0_off21 k0_t3 (BitVec.ofNat 32 (16 * r.val))) a + S16.size a ≤ S8192.size a
  k0_off22_inb : ∀ k0_t3 : Fin k0_t3_loop.trips, ∀ (r : Fin 2), ∀ a, (k0_off22 k0_t3 (BitVec.ofNat 32 (16 + 16 * r.val))) a + S16.size a ≤ S8192.size a
  k0_off23_inb : ∀ k0_t3 : Fin k0_t3_loop.trips, ∀ (r : Fin 2), ∀ a, (k0_off23 k0_t3 (BitVec.ofNat 32 (32 + 16 * r.val))) a + S16.size a ≤ S8192.size a
  k0_off24_inb : ∀ k0_t3 : Fin k0_t3_loop.trips, ∀ (r : Fin 2), ∀ a, (k0_off24 k0_t3 (BitVec.ofNat 32 (48 + 16 * r.val))) a + S16.size a ≤ S8192.size a
  k0_off25_inb : ∀ k0_t3 : Fin k0_t3_loop.trips, ∀ (r : Fin 2), ∀ a, (k0_off25 k0_t3 (BitVec.ofNat 32 (64 + 16 * r.val))) a + S16.size a ≤ S8192.size a
  k0_off26_inb : ∀ k0_t3 : Fin k0_t3_loop.trips, ∀ (r : Fin 2), ∀ a, (k0_off26 k0_t3 (BitVec.ofNat 32 (80 + 16 * r.val))) a + S16.size a ≤ S8192.size a
  k0_off27_inb : ∀ k0_t3 : Fin k0_t3_loop.trips, ∀ (r : Fin 2), ∀ a, (k0_off27 k0_t3 (BitVec.ofNat 32 (96 + 16 * r.val))) a + S16.size a ≤ S8192.size a
  k0_off28_inb : ∀ k0_t3 : Fin k0_t3_loop.trips, ∀ (r : Fin 2), ∀ a, (k0_off28 k0_t3 (BitVec.ofNat 32 (112 + 16 * r.val))) a + S16.size a ≤ S8192.size a
  k0_off29_inb : ∀ k0_t3 : Fin k0_t3_loop.trips, ∀ (r : Fin 2), ∀ a, (k0_off29 k0_t3 (BitVec.ofNat 32 (128 + 16 * r.val))) a + S16.size a ≤ S8192.size a
  k0_off30_inb : ∀ k0_t3 : Fin k0_t3_loop.trips, ∀ (r : Fin 2), ∀ a, (k0_off30 k0_t3 (BitVec.ofNat 32 (144 + 16 * r.val))) a + S16.size a ≤ S8192.size a
  k0_off31_inb : ∀ k0_t3 : Fin k0_t3_loop.trips, ∀ (r : Fin 2), ∀ a, (k0_off31 k0_t3 (BitVec.ofNat 32 (160 + 16 * r.val))) a + S16.size a ≤ S8192.size a
  k0_off32_inb : ∀ k0_t3 : Fin k0_t3_loop.trips, ∀ (r : Fin 2), ∀ a, (k0_off32 k0_t3 (BitVec.ofNat 32 (176 + 16 * r.val))) a + S16.size a ≤ S8192.size a
  k0_off33_inb : ∀ k0_t3 : Fin k0_t3_loop.trips, ∀ (r : Fin 2), ∀ a, (k0_off33 k0_t3 (BitVec.ofNat 32 (192 + 16 * r.val))) a + S16.size a ≤ S8192.size a
  k0_off34_inb : ∀ k0_t3 : Fin k0_t3_loop.trips, ∀ (r : Fin 2), ∀ a, (k0_off34 k0_t3 (BitVec.ofNat 32 (208 + 16 * r.val))) a + S16.size a ≤ S8192.size a
  k0_off35_inb : ∀ k0_t3 : Fin k0_t3_loop.trips, ∀ (r : Fin 2), ∀ a, (k0_off35 k0_t3 (BitVec.ofNat 32 (224 + 16 * r.val))) a + S16.size a ≤ S8192.size a
  k0_off36_inb : ∀ k0_t3 : Fin k0_t3_loop.trips, ∀ a, (k0_off36 k0_t3) a + S16.size a ≤ S8192.size a
  k0_off37_inb : ∀ (i : grid0.Coords) (k0_t1 : Fin (k0_t1_loop i).trips), ∀ a, (k0_off37 i k0_t1) a + S1x8192.size a ≤ S936x16384.size a
  k0_t4_ok : ∀ i : grid0.Coords, (k0_t4_loop i).OK
  k0_off38_inb : ∀ (i : grid0.Coords) (k0_t4 : Fin (k0_t4_loop i).trips), ∀ a, (k0_off38 i k0_t4) a + S1x100000.size a ≤ S36x100000.size a
  k0_t5_ok : k0_t5_loop.OK
  k0_off39_inb : ∀ k0_t5 : Fin k0_t5_loop.trips, ∀ a, (k0_off39 k0_t5) a + S16.size a ≤ S8192.size a
  k0_off40_inb : ∀ k0_t5 : Fin k0_t5_loop.trips, ∀ (r : Fin 2), ∀ a, (k0_off40 k0_t5 (BitVec.ofNat 32 (16 * r.val))) a + S16.size a ≤ S8192.size a
  k0_off41_inb : ∀ k0_t5 : Fin k0_t5_loop.trips, ∀ (r : Fin 2), ∀ a, (k0_off41 k0_t5 (BitVec.ofNat 32 (16 + 16 * r.val))) a + S16.size a ≤ S8192.size a
  k0_off42_inb : ∀ k0_t5 : Fin k0_t5_loop.trips, ∀ (r : Fin 2), ∀ a, (k0_off42 k0_t5 (BitVec.ofNat 32 (32 + 16 * r.val))) a + S16.size a ≤ S8192.size a
  k0_off43_inb : ∀ k0_t5 : Fin k0_t5_loop.trips, ∀ (r : Fin 2), ∀ a, (k0_off43 k0_t5 (BitVec.ofNat 32 (48 + 16 * r.val))) a + S16.size a ≤ S8192.size a
  k0_off44_inb : ∀ k0_t5 : Fin k0_t5_loop.trips, ∀ (r : Fin 2), ∀ a, (k0_off44 k0_t5 (BitVec.ofNat 32 (64 + 16 * r.val))) a + S16.size a ≤ S8192.size a
  k0_off45_inb : ∀ k0_t5 : Fin k0_t5_loop.trips, ∀ (r : Fin 2), ∀ a, (k0_off45 k0_t5 (BitVec.ofNat 32 (80 + 16 * r.val))) a + S16.size a ≤ S8192.size a
  k0_off46_inb : ∀ k0_t5 : Fin k0_t5_loop.trips, ∀ (r : Fin 2), ∀ a, (k0_off46 k0_t5 (BitVec.ofNat 32 (96 + 16 * r.val))) a + S16.size a ≤ S8192.size a
  k0_off47_inb : ∀ k0_t5 : Fin k0_t5_loop.trips, ∀ (r : Fin 2), ∀ a, (k0_off47 k0_t5 (BitVec.ofNat 32 (112 + 16 * r.val))) a + S16.size a ≤ S8192.size a
  k0_off48_inb : ∀ k0_t5 : Fin k0_t5_loop.trips, ∀ (r : Fin 2), ∀ a, (k0_off48 k0_t5 (BitVec.ofNat 32 (128 + 16 * r.val))) a + S16.size a ≤ S8192.size a
  k0_off49_inb : ∀ k0_t5 : Fin k0_t5_loop.trips, ∀ (r : Fin 2), ∀ a, (k0_off49 k0_t5 (BitVec.ofNat 32 (144 + 16 * r.val))) a + S16.size a ≤ S8192.size a
  k0_off50_inb : ∀ k0_t5 : Fin k0_t5_loop.trips, ∀ (r : Fin 2), ∀ a, (k0_off50 k0_t5 (BitVec.ofNat 32 (160 + 16 * r.val))) a + S16.size a ≤ S8192.size a
  k0_off51_inb : ∀ k0_t5 : Fin k0_t5_loop.trips, ∀ (r : Fin 2), ∀ a, (k0_off51 k0_t5 (BitVec.ofNat 32 (176 + 16 * r.val))) a + S16.size a ≤ S8192.size a
  k0_off52_inb : ∀ k0_t5 : Fin k0_t5_loop.trips, ∀ (r : Fin 2), ∀ a, (k0_off52 k0_t5 (BitVec.ofNat 32 (192 + 16 * r.val))) a + S16.size a ≤ S8192.size a
  k0_off53_inb : ∀ k0_t5 : Fin k0_t5_loop.trips, ∀ (r : Fin 2), ∀ a, (k0_off53 k0_t5 (BitVec.ofNat 32 (208 + 16 * r.val))) a + S16.size a ≤ S8192.size a
  k0_off54_inb : ∀ k0_t5 : Fin k0_t5_loop.trips, ∀ (r : Fin 2), ∀ a, (k0_off54 k0_t5 (BitVec.ofNat 32 (224 + 16 * r.val))) a + S16.size a ≤ S8192.size a
  k0_off55_inb : ∀ k0_t5 : Fin k0_t5_loop.trips, ∀ a, (k0_off55 k0_t5) a + S16.size a ≤ S8192.size a
  k0_off56_inb : ∀ (i : grid0.Coords) (k0_t4 : Fin (k0_t4_loop i).trips), ∀ a, (k0_off56 i k0_t4) a + S1x8192.size a ≤ S936x16384.size a
  k0_t6_ok : k0_t6_loop.OK
  k0_off57_inb : ∀ k0_t6 : Fin k0_t6_loop.trips, ∀ a, (k0_off57 k0_t6) a + S16.size a ≤ S8192.size a
  k0_off58_inb : ∀ k0_t6 : Fin k0_t6_loop.trips, ∀ (r : Fin 2), ∀ a, (k0_off58 k0_t6 (BitVec.ofNat 32 (16 * r.val))) a + S16.size a ≤ S8192.size a
  k0_off59_inb : ∀ k0_t6 : Fin k0_t6_loop.trips, ∀ (r : Fin 2), ∀ a, (k0_off59 k0_t6 (BitVec.ofNat 32 (16 + 16 * r.val))) a + S16.size a ≤ S8192.size a
  k0_off60_inb : ∀ k0_t6 : Fin k0_t6_loop.trips, ∀ (r : Fin 2), ∀ a, (k0_off60 k0_t6 (BitVec.ofNat 32 (32 + 16 * r.val))) a + S16.size a ≤ S8192.size a
  k0_off61_inb : ∀ k0_t6 : Fin k0_t6_loop.trips, ∀ (r : Fin 2), ∀ a, (k0_off61 k0_t6 (BitVec.ofNat 32 (48 + 16 * r.val))) a + S16.size a ≤ S8192.size a
  k0_off62_inb : ∀ k0_t6 : Fin k0_t6_loop.trips, ∀ (r : Fin 2), ∀ a, (k0_off62 k0_t6 (BitVec.ofNat 32 (64 + 16 * r.val))) a + S16.size a ≤ S8192.size a
  k0_off63_inb : ∀ k0_t6 : Fin k0_t6_loop.trips, ∀ (r : Fin 2), ∀ a, (k0_off63 k0_t6 (BitVec.ofNat 32 (80 + 16 * r.val))) a + S16.size a ≤ S8192.size a
  k0_off64_inb : ∀ k0_t6 : Fin k0_t6_loop.trips, ∀ (r : Fin 2), ∀ a, (k0_off64 k0_t6 (BitVec.ofNat 32 (96 + 16 * r.val))) a + S16.size a ≤ S8192.size a
  k0_off65_inb : ∀ k0_t6 : Fin k0_t6_loop.trips, ∀ (r : Fin 2), ∀ a, (k0_off65 k0_t6 (BitVec.ofNat 32 (112 + 16 * r.val))) a + S16.size a ≤ S8192.size a
  k0_off66_inb : ∀ k0_t6 : Fin k0_t6_loop.trips, ∀ (r : Fin 2), ∀ a, (k0_off66 k0_t6 (BitVec.ofNat 32 (128 + 16 * r.val))) a + S16.size a ≤ S8192.size a
  k0_off67_inb : ∀ k0_t6 : Fin k0_t6_loop.trips, ∀ (r : Fin 2), ∀ a, (k0_off67 k0_t6 (BitVec.ofNat 32 (144 + 16 * r.val))) a + S16.size a ≤ S8192.size a
  k0_off68_inb : ∀ k0_t6 : Fin k0_t6_loop.trips, ∀ (r : Fin 2), ∀ a, (k0_off68 k0_t6 (BitVec.ofNat 32 (160 + 16 * r.val))) a + S16.size a ≤ S8192.size a
  k0_off69_inb : ∀ k0_t6 : Fin k0_t6_loop.trips, ∀ (r : Fin 2), ∀ a, (k0_off69 k0_t6 (BitVec.ofNat 32 (176 + 16 * r.val))) a + S16.size a ≤ S8192.size a
  k0_off70_inb : ∀ k0_t6 : Fin k0_t6_loop.trips, ∀ (r : Fin 2), ∀ a, (k0_off70 k0_t6 (BitVec.ofNat 32 (192 + 16 * r.val))) a + S16.size a ≤ S8192.size a
  k0_off71_inb : ∀ k0_t6 : Fin k0_t6_loop.trips, ∀ (r : Fin 2), ∀ a, (k0_off71 k0_t6 (BitVec.ofNat 32 (208 + 16 * r.val))) a + S16.size a ≤ S8192.size a
  k0_off72_inb : ∀ k0_t6 : Fin k0_t6_loop.trips, ∀ (r : Fin 2), ∀ a, (k0_off72 k0_t6 (BitVec.ofNat 32 (224 + 16 * r.val))) a + S16.size a ≤ S8192.size a
  k0_off73_inb : ∀ k0_t6 : Fin k0_t6_loop.trips, ∀ a, (k0_off73 k0_t6) a + S16.size a ≤ S8192.size a
  k0_off74_inb : ∀ (i : grid0.Coords) (k0_t4 : Fin (k0_t4_loop i).trips), ∀ a, (k0_off74 i k0_t4) a + S1x8192.size a ≤ S936x16384.size a
  k0_t7_ok : ∀ i : grid0.Coords, (k0_t7_loop i).OK
  k0_off75_inb : ∀ (i : grid0.Coords) (k0_t7 : Fin (k0_t7_loop i).trips), ∀ a, (k0_off75 i k0_t7) a + S1x100000.size a ≤ S36x100000.size a
  k0_t8_ok : k0_t8_loop.OK
  k0_off76_inb : ∀ k0_t8 : Fin k0_t8_loop.trips, ∀ a, (k0_off76 k0_t8) a + S16.size a ≤ S8192.size a
  k0_off77_inb : ∀ k0_t8 : Fin k0_t8_loop.trips, ∀ (r : Fin 2), ∀ a, (k0_off77 k0_t8 (BitVec.ofNat 32 (16 * r.val))) a + S16.size a ≤ S8192.size a
  k0_off78_inb : ∀ k0_t8 : Fin k0_t8_loop.trips, ∀ (r : Fin 2), ∀ a, (k0_off78 k0_t8 (BitVec.ofNat 32 (16 + 16 * r.val))) a + S16.size a ≤ S8192.size a
  k0_off79_inb : ∀ k0_t8 : Fin k0_t8_loop.trips, ∀ (r : Fin 2), ∀ a, (k0_off79 k0_t8 (BitVec.ofNat 32 (32 + 16 * r.val))) a + S16.size a ≤ S8192.size a
  k0_off80_inb : ∀ k0_t8 : Fin k0_t8_loop.trips, ∀ (r : Fin 2), ∀ a, (k0_off80 k0_t8 (BitVec.ofNat 32 (48 + 16 * r.val))) a + S16.size a ≤ S8192.size a
  k0_off81_inb : ∀ k0_t8 : Fin k0_t8_loop.trips, ∀ (r : Fin 2), ∀ a, (k0_off81 k0_t8 (BitVec.ofNat 32 (64 + 16 * r.val))) a + S16.size a ≤ S8192.size a
  k0_off82_inb : ∀ k0_t8 : Fin k0_t8_loop.trips, ∀ (r : Fin 2), ∀ a, (k0_off82 k0_t8 (BitVec.ofNat 32 (80 + 16 * r.val))) a + S16.size a ≤ S8192.size a
  k0_off83_inb : ∀ k0_t8 : Fin k0_t8_loop.trips, ∀ (r : Fin 2), ∀ a, (k0_off83 k0_t8 (BitVec.ofNat 32 (96 + 16 * r.val))) a + S16.size a ≤ S8192.size a
  k0_off84_inb : ∀ k0_t8 : Fin k0_t8_loop.trips, ∀ (r : Fin 2), ∀ a, (k0_off84 k0_t8 (BitVec.ofNat 32 (112 + 16 * r.val))) a + S16.size a ≤ S8192.size a
  k0_off85_inb : ∀ k0_t8 : Fin k0_t8_loop.trips, ∀ (r : Fin 2), ∀ a, (k0_off85 k0_t8 (BitVec.ofNat 32 (128 + 16 * r.val))) a + S16.size a ≤ S8192.size a
  k0_off86_inb : ∀ k0_t8 : Fin k0_t8_loop.trips, ∀ (r : Fin 2), ∀ a, (k0_off86 k0_t8 (BitVec.ofNat 32 (144 + 16 * r.val))) a + S16.size a ≤ S8192.size a
  k0_off87_inb : ∀ k0_t8 : Fin k0_t8_loop.trips, ∀ (r : Fin 2), ∀ a, (k0_off87 k0_t8 (BitVec.ofNat 32 (160 + 16 * r.val))) a + S16.size a ≤ S8192.size a
  k0_off88_inb : ∀ k0_t8 : Fin k0_t8_loop.trips, ∀ (r : Fin 2), ∀ a, (k0_off88 k0_t8 (BitVec.ofNat 32 (176 + 16 * r.val))) a + S16.size a ≤ S8192.size a
  k0_off89_inb : ∀ k0_t8 : Fin k0_t8_loop.trips, ∀ (r : Fin 2), ∀ a, (k0_off89 k0_t8 (BitVec.ofNat 32 (192 + 16 * r.val))) a + S16.size a ≤ S8192.size a
  k0_off90_inb : ∀ k0_t8 : Fin k0_t8_loop.trips, ∀ (r : Fin 2), ∀ a, (k0_off90 k0_t8 (BitVec.ofNat 32 (208 + 16 * r.val))) a + S16.size a ≤ S8192.size a
  k0_off91_inb : ∀ k0_t8 : Fin k0_t8_loop.trips, ∀ (r : Fin 2), ∀ a, (k0_off91 k0_t8 (BitVec.ofNat 32 (224 + 16 * r.val))) a + S16.size a ≤ S8192.size a
  k0_off92_inb : ∀ k0_t8 : Fin k0_t8_loop.trips, ∀ a, (k0_off92 k0_t8) a + S16.size a ≤ S8192.size a
  k0_off93_inb : ∀ (i : grid0.Coords) (k0_t7 : Fin (k0_t7_loop i).trips), ∀ a, (k0_off93 i k0_t7) a + S1x8192.size a ≤ S936x16384.size a
  k0_t9_ok : k0_t9_loop.OK
  k0_off94_inb : ∀ k0_t9 : Fin k0_t9_loop.trips, ∀ a, (k0_off94 k0_t9) a + S16.size a ≤ S8192.size a
  k0_off95_inb : ∀ k0_t9 : Fin k0_t9_loop.trips, ∀ (r : Fin 2), ∀ a, (k0_off95 k0_t9 (BitVec.ofNat 32 (16 * r.val))) a + S16.size a ≤ S8192.size a
  k0_off96_inb : ∀ k0_t9 : Fin k0_t9_loop.trips, ∀ (r : Fin 2), ∀ a, (k0_off96 k0_t9 (BitVec.ofNat 32 (16 + 16 * r.val))) a + S16.size a ≤ S8192.size a
  k0_off97_inb : ∀ k0_t9 : Fin k0_t9_loop.trips, ∀ (r : Fin 2), ∀ a, (k0_off97 k0_t9 (BitVec.ofNat 32 (32 + 16 * r.val))) a + S16.size a ≤ S8192.size a
  k0_off98_inb : ∀ k0_t9 : Fin k0_t9_loop.trips, ∀ (r : Fin 2), ∀ a, (k0_off98 k0_t9 (BitVec.ofNat 32 (48 + 16 * r.val))) a + S16.size a ≤ S8192.size a
  k0_off99_inb : ∀ k0_t9 : Fin k0_t9_loop.trips, ∀ (r : Fin 2), ∀ a, (k0_off99 k0_t9 (BitVec.ofNat 32 (64 + 16 * r.val))) a + S16.size a ≤ S8192.size a
  k0_off100_inb : ∀ k0_t9 : Fin k0_t9_loop.trips, ∀ (r : Fin 2), ∀ a, (k0_off100 k0_t9 (BitVec.ofNat 32 (80 + 16 * r.val))) a + S16.size a ≤ S8192.size a
  k0_off101_inb : ∀ k0_t9 : Fin k0_t9_loop.trips, ∀ (r : Fin 2), ∀ a, (k0_off101 k0_t9 (BitVec.ofNat 32 (96 + 16 * r.val))) a + S16.size a ≤ S8192.size a
  k0_off102_inb : ∀ k0_t9 : Fin k0_t9_loop.trips, ∀ (r : Fin 2), ∀ a, (k0_off102 k0_t9 (BitVec.ofNat 32 (112 + 16 * r.val))) a + S16.size a ≤ S8192.size a
  k0_off103_inb : ∀ k0_t9 : Fin k0_t9_loop.trips, ∀ (r : Fin 2), ∀ a, (k0_off103 k0_t9 (BitVec.ofNat 32 (128 + 16 * r.val))) a + S16.size a ≤ S8192.size a
  k0_off104_inb : ∀ k0_t9 : Fin k0_t9_loop.trips, ∀ (r : Fin 2), ∀ a, (k0_off104 k0_t9 (BitVec.ofNat 32 (144 + 16 * r.val))) a + S16.size a ≤ S8192.size a
  k0_off105_inb : ∀ k0_t9 : Fin k0_t9_loop.trips, ∀ (r : Fin 2), ∀ a, (k0_off105 k0_t9 (BitVec.ofNat 32 (160 + 16 * r.val))) a + S16.size a ≤ S8192.size a
  k0_off106_inb : ∀ k0_t9 : Fin k0_t9_loop.trips, ∀ (r : Fin 2), ∀ a, (k0_off106 k0_t9 (BitVec.ofNat 32 (176 + 16 * r.val))) a + S16.size a ≤ S8192.size a
  k0_off107_inb : ∀ k0_t9 : Fin k0_t9_loop.trips, ∀ (r : Fin 2), ∀ a, (k0_off107 k0_t9 (BitVec.ofNat 32 (192 + 16 * r.val))) a + S16.size a ≤ S8192.size a
  k0_off108_inb : ∀ k0_t9 : Fin k0_t9_loop.trips, ∀ (r : Fin 2), ∀ a, (k0_off108 k0_t9 (BitVec.ofNat 32 (208 + 16 * r.val))) a + S16.size a ≤ S8192.size a
  k0_off109_inb : ∀ k0_t9 : Fin k0_t9_loop.trips, ∀ (r : Fin 2), ∀ a, (k0_off109 k0_t9 (BitVec.ofNat 32 (224 + 16 * r.val))) a + S16.size a ≤ S8192.size a
  k0_off110_inb : ∀ k0_t9 : Fin k0_t9_loop.trips, ∀ a, (k0_off110 k0_t9) a + S16.size a ≤ S8192.size a
  k0_off111_inb : ∀ (i : grid0.Coords) (k0_t7 : Fin (k0_t7_loop i).trips), ∀ a, (k0_off111 i k0_t7) a + S1x8192.size a ≤ S936x16384.size a
  k0_t10_ok : ∀ i : grid0.Coords, (k0_t10_loop i).OK
  k0_off112_inb : ∀ (i : grid0.Coords) (k0_t10 : Fin (k0_t10_loop i).trips), ∀ a, (k0_off112 i k0_t10) a + S1x100000.size a ≤ S36x100000.size a
  k0_t11_ok : k0_t11_loop.OK
  k0_off113_inb : ∀ k0_t11 : Fin k0_t11_loop.trips, ∀ a, (k0_off113 k0_t11) a + S16.size a ≤ S8192.size a
  k0_off114_inb : ∀ k0_t11 : Fin k0_t11_loop.trips, ∀ (r : Fin 2), ∀ a, (k0_off114 k0_t11 (BitVec.ofNat 32 (16 * r.val))) a + S16.size a ≤ S8192.size a
  k0_off115_inb : ∀ k0_t11 : Fin k0_t11_loop.trips, ∀ (r : Fin 2), ∀ a, (k0_off115 k0_t11 (BitVec.ofNat 32 (16 + 16 * r.val))) a + S16.size a ≤ S8192.size a
  k0_off116_inb : ∀ k0_t11 : Fin k0_t11_loop.trips, ∀ (r : Fin 2), ∀ a, (k0_off116 k0_t11 (BitVec.ofNat 32 (32 + 16 * r.val))) a + S16.size a ≤ S8192.size a
  k0_off117_inb : ∀ k0_t11 : Fin k0_t11_loop.trips, ∀ (r : Fin 2), ∀ a, (k0_off117 k0_t11 (BitVec.ofNat 32 (48 + 16 * r.val))) a + S16.size a ≤ S8192.size a
  k0_off118_inb : ∀ k0_t11 : Fin k0_t11_loop.trips, ∀ (r : Fin 2), ∀ a, (k0_off118 k0_t11 (BitVec.ofNat 32 (64 + 16 * r.val))) a + S16.size a ≤ S8192.size a
  k0_off119_inb : ∀ k0_t11 : Fin k0_t11_loop.trips, ∀ (r : Fin 2), ∀ a, (k0_off119 k0_t11 (BitVec.ofNat 32 (80 + 16 * r.val))) a + S16.size a ≤ S8192.size a
  k0_off120_inb : ∀ k0_t11 : Fin k0_t11_loop.trips, ∀ (r : Fin 2), ∀ a, (k0_off120 k0_t11 (BitVec.ofNat 32 (96 + 16 * r.val))) a + S16.size a ≤ S8192.size a
  k0_off121_inb : ∀ k0_t11 : Fin k0_t11_loop.trips, ∀ (r : Fin 2), ∀ a, (k0_off121 k0_t11 (BitVec.ofNat 32 (112 + 16 * r.val))) a + S16.size a ≤ S8192.size a
  k0_off122_inb : ∀ k0_t11 : Fin k0_t11_loop.trips, ∀ (r : Fin 2), ∀ a, (k0_off122 k0_t11 (BitVec.ofNat 32 (128 + 16 * r.val))) a + S16.size a ≤ S8192.size a
  k0_off123_inb : ∀ k0_t11 : Fin k0_t11_loop.trips, ∀ (r : Fin 2), ∀ a, (k0_off123 k0_t11 (BitVec.ofNat 32 (144 + 16 * r.val))) a + S16.size a ≤ S8192.size a
  k0_off124_inb : ∀ k0_t11 : Fin k0_t11_loop.trips, ∀ (r : Fin 2), ∀ a, (k0_off124 k0_t11 (BitVec.ofNat 32 (160 + 16 * r.val))) a + S16.size a ≤ S8192.size a
  k0_off125_inb : ∀ k0_t11 : Fin k0_t11_loop.trips, ∀ (r : Fin 2), ∀ a, (k0_off125 k0_t11 (BitVec.ofNat 32 (176 + 16 * r.val))) a + S16.size a ≤ S8192.size a
  k0_off126_inb : ∀ k0_t11 : Fin k0_t11_loop.trips, ∀ (r : Fin 2), ∀ a, (k0_off126 k0_t11 (BitVec.ofNat 32 (192 + 16 * r.val))) a + S16.size a ≤ S8192.size a
  k0_off127_inb : ∀ k0_t11 : Fin k0_t11_loop.trips, ∀ (r : Fin 2), ∀ a, (k0_off127 k0_t11 (BitVec.ofNat 32 (208 + 16 * r.val))) a + S16.size a ≤ S8192.size a
  k0_off128_inb : ∀ k0_t11 : Fin k0_t11_loop.trips, ∀ (r : Fin 2), ∀ a, (k0_off128 k0_t11 (BitVec.ofNat 32 (224 + 16 * r.val))) a + S16.size a ≤ S8192.size a
  k0_off129_inb : ∀ k0_t11 : Fin k0_t11_loop.trips, ∀ a, (k0_off129 k0_t11) a + S16.size a ≤ S8192.size a
  k0_off130_inb : ∀ (i : grid0.Coords) (k0_t10 : Fin (k0_t10_loop i).trips), ∀ a, (k0_off130 i k0_t10) a + S1x8192.size a ≤ S936x16384.size a
  k0_t12_ok : k0_t12_loop.OK
  k0_off131_inb : ∀ k0_t12 : Fin k0_t12_loop.trips, ∀ a, (k0_off131 k0_t12) a + S16.size a ≤ S8192.size a
  k0_off132_inb : ∀ k0_t12 : Fin k0_t12_loop.trips, ∀ (r : Fin 2), ∀ a, (k0_off132 k0_t12 (BitVec.ofNat 32 (16 * r.val))) a + S16.size a ≤ S8192.size a
  k0_off133_inb : ∀ k0_t12 : Fin k0_t12_loop.trips, ∀ (r : Fin 2), ∀ a, (k0_off133 k0_t12 (BitVec.ofNat 32 (16 + 16 * r.val))) a + S16.size a ≤ S8192.size a
  k0_off134_inb : ∀ k0_t12 : Fin k0_t12_loop.trips, ∀ (r : Fin 2), ∀ a, (k0_off134 k0_t12 (BitVec.ofNat 32 (32 + 16 * r.val))) a + S16.size a ≤ S8192.size a
  k0_off135_inb : ∀ k0_t12 : Fin k0_t12_loop.trips, ∀ (r : Fin 2), ∀ a, (k0_off135 k0_t12 (BitVec.ofNat 32 (48 + 16 * r.val))) a + S16.size a ≤ S8192.size a
  k0_off136_inb : ∀ k0_t12 : Fin k0_t12_loop.trips, ∀ (r : Fin 2), ∀ a, (k0_off136 k0_t12 (BitVec.ofNat 32 (64 + 16 * r.val))) a + S16.size a ≤ S8192.size a
  k0_off137_inb : ∀ k0_t12 : Fin k0_t12_loop.trips, ∀ (r : Fin 2), ∀ a, (k0_off137 k0_t12 (BitVec.ofNat 32 (80 + 16 * r.val))) a + S16.size a ≤ S8192.size a
  k0_off138_inb : ∀ k0_t12 : Fin k0_t12_loop.trips, ∀ (r : Fin 2), ∀ a, (k0_off138 k0_t12 (BitVec.ofNat 32 (96 + 16 * r.val))) a + S16.size a ≤ S8192.size a
  k0_off139_inb : ∀ k0_t12 : Fin k0_t12_loop.trips, ∀ (r : Fin 2), ∀ a, (k0_off139 k0_t12 (BitVec.ofNat 32 (112 + 16 * r.val))) a + S16.size a ≤ S8192.size a
  k0_off140_inb : ∀ k0_t12 : Fin k0_t12_loop.trips, ∀ (r : Fin 2), ∀ a, (k0_off140 k0_t12 (BitVec.ofNat 32 (128 + 16 * r.val))) a + S16.size a ≤ S8192.size a
  k0_off141_inb : ∀ k0_t12 : Fin k0_t12_loop.trips, ∀ (r : Fin 2), ∀ a, (k0_off141 k0_t12 (BitVec.ofNat 32 (144 + 16 * r.val))) a + S16.size a ≤ S8192.size a
  k0_off142_inb : ∀ k0_t12 : Fin k0_t12_loop.trips, ∀ (r : Fin 2), ∀ a, (k0_off142 k0_t12 (BitVec.ofNat 32 (160 + 16 * r.val))) a + S16.size a ≤ S8192.size a
  k0_off143_inb : ∀ k0_t12 : Fin k0_t12_loop.trips, ∀ (r : Fin 2), ∀ a, (k0_off143 k0_t12 (BitVec.ofNat 32 (176 + 16 * r.val))) a + S16.size a ≤ S8192.size a
  k0_off144_inb : ∀ k0_t12 : Fin k0_t12_loop.trips, ∀ (r : Fin 2), ∀ a, (k0_off144 k0_t12 (BitVec.ofNat 32 (192 + 16 * r.val))) a + S16.size a ≤ S8192.size a
  k0_off145_inb : ∀ k0_t12 : Fin k0_t12_loop.trips, ∀ (r : Fin 2), ∀ a, (k0_off145 k0_t12 (BitVec.ofNat 32 (208 + 16 * r.val))) a + S16.size a ≤ S8192.size a
  k0_off146_inb : ∀ k0_t12 : Fin k0_t12_loop.trips, ∀ (r : Fin 2), ∀ a, (k0_off146 k0_t12 (BitVec.ofNat 32 (224 + 16 * r.val))) a + S16.size a ≤ S8192.size a
  k0_off147_inb : ∀ k0_t12 : Fin k0_t12_loop.trips, ∀ a, (k0_off147 k0_t12) a + S16.size a ≤ S8192.size a
  k0_off148_inb : ∀ (i : grid0.Coords) (k0_t10 : Fin (k0_t10_loop i).trips), ∀ a, (k0_off148 i k0_t10) a + S1x8192.size a ≤ S936x16384.size a
  k0_t13_ok : ∀ i : grid0.Coords, (k0_t13_loop i).OK
  k0_off149_inb : ∀ (i : grid0.Coords) (k0_t13 : Fin (k0_t13_loop i).trips), ∀ a, (k0_off149 i k0_t13) a + S1x100000.size a ≤ S36x100000.size a
  k0_t14_ok : k0_t14_loop.OK
  k0_off150_inb : ∀ k0_t14 : Fin k0_t14_loop.trips, ∀ a, (k0_off150 k0_t14) a + S16.size a ≤ S8192.size a
  k0_off151_inb : ∀ k0_t14 : Fin k0_t14_loop.trips, ∀ (r : Fin 2), ∀ a, (k0_off151 k0_t14 (BitVec.ofNat 32 (16 * r.val))) a + S16.size a ≤ S8192.size a
  k0_off152_inb : ∀ k0_t14 : Fin k0_t14_loop.trips, ∀ (r : Fin 2), ∀ a, (k0_off152 k0_t14 (BitVec.ofNat 32 (16 + 16 * r.val))) a + S16.size a ≤ S8192.size a
  k0_off153_inb : ∀ k0_t14 : Fin k0_t14_loop.trips, ∀ (r : Fin 2), ∀ a, (k0_off153 k0_t14 (BitVec.ofNat 32 (32 + 16 * r.val))) a + S16.size a ≤ S8192.size a
  k0_off154_inb : ∀ k0_t14 : Fin k0_t14_loop.trips, ∀ (r : Fin 2), ∀ a, (k0_off154 k0_t14 (BitVec.ofNat 32 (48 + 16 * r.val))) a + S16.size a ≤ S8192.size a
  k0_off155_inb : ∀ k0_t14 : Fin k0_t14_loop.trips, ∀ (r : Fin 2), ∀ a, (k0_off155 k0_t14 (BitVec.ofNat 32 (64 + 16 * r.val))) a + S16.size a ≤ S8192.size a
  k0_off156_inb : ∀ k0_t14 : Fin k0_t14_loop.trips, ∀ (r : Fin 2), ∀ a, (k0_off156 k0_t14 (BitVec.ofNat 32 (80 + 16 * r.val))) a + S16.size a ≤ S8192.size a
  k0_off157_inb : ∀ k0_t14 : Fin k0_t14_loop.trips, ∀ (r : Fin 2), ∀ a, (k0_off157 k0_t14 (BitVec.ofNat 32 (96 + 16 * r.val))) a + S16.size a ≤ S8192.size a
  k0_off158_inb : ∀ k0_t14 : Fin k0_t14_loop.trips, ∀ (r : Fin 2), ∀ a, (k0_off158 k0_t14 (BitVec.ofNat 32 (112 + 16 * r.val))) a + S16.size a ≤ S8192.size a
  k0_off159_inb : ∀ k0_t14 : Fin k0_t14_loop.trips, ∀ (r : Fin 2), ∀ a, (k0_off159 k0_t14 (BitVec.ofNat 32 (128 + 16 * r.val))) a + S16.size a ≤ S8192.size a
  k0_off160_inb : ∀ k0_t14 : Fin k0_t14_loop.trips, ∀ (r : Fin 2), ∀ a, (k0_off160 k0_t14 (BitVec.ofNat 32 (144 + 16 * r.val))) a + S16.size a ≤ S8192.size a
  k0_off161_inb : ∀ k0_t14 : Fin k0_t14_loop.trips, ∀ (r : Fin 2), ∀ a, (k0_off161 k0_t14 (BitVec.ofNat 32 (160 + 16 * r.val))) a + S16.size a ≤ S8192.size a
  k0_off162_inb : ∀ k0_t14 : Fin k0_t14_loop.trips, ∀ (r : Fin 2), ∀ a, (k0_off162 k0_t14 (BitVec.ofNat 32 (176 + 16 * r.val))) a + S16.size a ≤ S8192.size a
  k0_off163_inb : ∀ k0_t14 : Fin k0_t14_loop.trips, ∀ (r : Fin 2), ∀ a, (k0_off163 k0_t14 (BitVec.ofNat 32 (192 + 16 * r.val))) a + S16.size a ≤ S8192.size a
  k0_off164_inb : ∀ k0_t14 : Fin k0_t14_loop.trips, ∀ (r : Fin 2), ∀ a, (k0_off164 k0_t14 (BitVec.ofNat 32 (208 + 16 * r.val))) a + S16.size a ≤ S8192.size a
  k0_off165_inb : ∀ k0_t14 : Fin k0_t14_loop.trips, ∀ (r : Fin 2), ∀ a, (k0_off165 k0_t14 (BitVec.ofNat 32 (224 + 16 * r.val))) a + S16.size a ≤ S8192.size a
  k0_off166_inb : ∀ k0_t14 : Fin k0_t14_loop.trips, ∀ a, (k0_off166 k0_t14) a + S16.size a ≤ S8192.size a
  k0_off167_inb : ∀ (i : grid0.Coords) (k0_t13 : Fin (k0_t13_loop i).trips), ∀ a, (k0_off167 i k0_t13) a + S1x8192.size a ≤ S936x16384.size a
  k0_t15_ok : k0_t15_loop.OK
  k0_off168_inb : ∀ k0_t15 : Fin k0_t15_loop.trips, ∀ a, (k0_off168 k0_t15) a + S16.size a ≤ S8192.size a
  k0_off169_inb : ∀ k0_t15 : Fin k0_t15_loop.trips, ∀ (r : Fin 2), ∀ a, (k0_off169 k0_t15 (BitVec.ofNat 32 (16 * r.val))) a + S16.size a ≤ S8192.size a
  k0_off170_inb : ∀ k0_t15 : Fin k0_t15_loop.trips, ∀ (r : Fin 2), ∀ a, (k0_off170 k0_t15 (BitVec.ofNat 32 (16 + 16 * r.val))) a + S16.size a ≤ S8192.size a
  k0_off171_inb : ∀ k0_t15 : Fin k0_t15_loop.trips, ∀ (r : Fin 2), ∀ a, (k0_off171 k0_t15 (BitVec.ofNat 32 (32 + 16 * r.val))) a + S16.size a ≤ S8192.size a
  k0_off172_inb : ∀ k0_t15 : Fin k0_t15_loop.trips, ∀ (r : Fin 2), ∀ a, (k0_off172 k0_t15 (BitVec.ofNat 32 (48 + 16 * r.val))) a + S16.size a ≤ S8192.size a
  k0_off173_inb : ∀ k0_t15 : Fin k0_t15_loop.trips, ∀ (r : Fin 2), ∀ a, (k0_off173 k0_t15 (BitVec.ofNat 32 (64 + 16 * r.val))) a + S16.size a ≤ S8192.size a
  k0_off174_inb : ∀ k0_t15 : Fin k0_t15_loop.trips, ∀ (r : Fin 2), ∀ a, (k0_off174 k0_t15 (BitVec.ofNat 32 (80 + 16 * r.val))) a + S16.size a ≤ S8192.size a
  k0_off175_inb : ∀ k0_t15 : Fin k0_t15_loop.trips, ∀ (r : Fin 2), ∀ a, (k0_off175 k0_t15 (BitVec.ofNat 32 (96 + 16 * r.val))) a + S16.size a ≤ S8192.size a
  k0_off176_inb : ∀ k0_t15 : Fin k0_t15_loop.trips, ∀ (r : Fin 2), ∀ a, (k0_off176 k0_t15 (BitVec.ofNat 32 (112 + 16 * r.val))) a + S16.size a ≤ S8192.size a
  k0_off177_inb : ∀ k0_t15 : Fin k0_t15_loop.trips, ∀ (r : Fin 2), ∀ a, (k0_off177 k0_t15 (BitVec.ofNat 32 (128 + 16 * r.val))) a + S16.size a ≤ S8192.size a
  k0_off178_inb : ∀ k0_t15 : Fin k0_t15_loop.trips, ∀ (r : Fin 2), ∀ a, (k0_off178 k0_t15 (BitVec.ofNat 32 (144 + 16 * r.val))) a + S16.size a ≤ S8192.size a
  k0_off179_inb : ∀ k0_t15 : Fin k0_t15_loop.trips, ∀ (r : Fin 2), ∀ a, (k0_off179 k0_t15 (BitVec.ofNat 32 (160 + 16 * r.val))) a + S16.size a ≤ S8192.size a
  k0_off180_inb : ∀ k0_t15 : Fin k0_t15_loop.trips, ∀ (r : Fin 2), ∀ a, (k0_off180 k0_t15 (BitVec.ofNat 32 (176 + 16 * r.val))) a + S16.size a ≤ S8192.size a
  k0_off181_inb : ∀ k0_t15 : Fin k0_t15_loop.trips, ∀ (r : Fin 2), ∀ a, (k0_off181 k0_t15 (BitVec.ofNat 32 (192 + 16 * r.val))) a + S16.size a ≤ S8192.size a
  k0_off182_inb : ∀ k0_t15 : Fin k0_t15_loop.trips, ∀ (r : Fin 2), ∀ a, (k0_off182 k0_t15 (BitVec.ofNat 32 (208 + 16 * r.val))) a + S16.size a ≤ S8192.size a
  k0_off183_inb : ∀ k0_t15 : Fin k0_t15_loop.trips, ∀ (r : Fin 2), ∀ a, (k0_off183 k0_t15 (BitVec.ofNat 32 (224 + 16 * r.val))) a + S16.size a ≤ S8192.size a
  k0_off184_inb : ∀ k0_t15 : Fin k0_t15_loop.trips, ∀ a, (k0_off184 k0_t15) a + S16.size a ≤ S8192.size a
  k0_off185_inb : ∀ (i : grid0.Coords) (k0_t13 : Fin (k0_t13_loop i).trips), ∀ a, (k0_off185 i k0_t13) a + S1x8192.size a ≤ S936x16384.size a
  k0_t16_ok : ∀ i : grid0.Coords, (k0_t16_loop i).OK
  k0_off186_inb : ∀ (i : grid0.Coords) (k0_t16 : Fin (k0_t16_loop i).trips), ∀ a, (k0_off186 i k0_t16) a + S1x100000.size a ≤ S36x100000.size a
  k0_t17_ok : k0_t17_loop.OK
  k0_off187_inb : ∀ k0_t17 : Fin k0_t17_loop.trips, ∀ a, (k0_off187 k0_t17) a + S16.size a ≤ S8192.size a
  k0_off188_inb : ∀ k0_t17 : Fin k0_t17_loop.trips, ∀ (r : Fin 2), ∀ a, (k0_off188 k0_t17 (BitVec.ofNat 32 (16 * r.val))) a + S16.size a ≤ S8192.size a
  k0_off189_inb : ∀ k0_t17 : Fin k0_t17_loop.trips, ∀ (r : Fin 2), ∀ a, (k0_off189 k0_t17 (BitVec.ofNat 32 (16 + 16 * r.val))) a + S16.size a ≤ S8192.size a
  k0_off190_inb : ∀ k0_t17 : Fin k0_t17_loop.trips, ∀ (r : Fin 2), ∀ a, (k0_off190 k0_t17 (BitVec.ofNat 32 (32 + 16 * r.val))) a + S16.size a ≤ S8192.size a
  k0_off191_inb : ∀ k0_t17 : Fin k0_t17_loop.trips, ∀ (r : Fin 2), ∀ a, (k0_off191 k0_t17 (BitVec.ofNat 32 (48 + 16 * r.val))) a + S16.size a ≤ S8192.size a
  k0_off192_inb : ∀ k0_t17 : Fin k0_t17_loop.trips, ∀ (r : Fin 2), ∀ a, (k0_off192 k0_t17 (BitVec.ofNat 32 (64 + 16 * r.val))) a + S16.size a ≤ S8192.size a
  k0_off193_inb : ∀ k0_t17 : Fin k0_t17_loop.trips, ∀ (r : Fin 2), ∀ a, (k0_off193 k0_t17 (BitVec.ofNat 32 (80 + 16 * r.val))) a + S16.size a ≤ S8192.size a
  k0_off194_inb : ∀ k0_t17 : Fin k0_t17_loop.trips, ∀ (r : Fin 2), ∀ a, (k0_off194 k0_t17 (BitVec.ofNat 32 (96 + 16 * r.val))) a + S16.size a ≤ S8192.size a
  k0_off195_inb : ∀ k0_t17 : Fin k0_t17_loop.trips, ∀ (r : Fin 2), ∀ a, (k0_off195 k0_t17 (BitVec.ofNat 32 (112 + 16 * r.val))) a + S16.size a ≤ S8192.size a
  k0_off196_inb : ∀ k0_t17 : Fin k0_t17_loop.trips, ∀ (r : Fin 2), ∀ a, (k0_off196 k0_t17 (BitVec.ofNat 32 (128 + 16 * r.val))) a + S16.size a ≤ S8192.size a
  k0_off197_inb : ∀ k0_t17 : Fin k0_t17_loop.trips, ∀ (r : Fin 2), ∀ a, (k0_off197 k0_t17 (BitVec.ofNat 32 (144 + 16 * r.val))) a + S16.size a ≤ S8192.size a
  k0_off198_inb : ∀ k0_t17 : Fin k0_t17_loop.trips, ∀ (r : Fin 2), ∀ a, (k0_off198 k0_t17 (BitVec.ofNat 32 (160 + 16 * r.val))) a + S16.size a ≤ S8192.size a
  k0_off199_inb : ∀ k0_t17 : Fin k0_t17_loop.trips, ∀ (r : Fin 2), ∀ a, (k0_off199 k0_t17 (BitVec.ofNat 32 (176 + 16 * r.val))) a + S16.size a ≤ S8192.size a
  k0_off200_inb : ∀ k0_t17 : Fin k0_t17_loop.trips, ∀ (r : Fin 2), ∀ a, (k0_off200 k0_t17 (BitVec.ofNat 32 (192 + 16 * r.val))) a + S16.size a ≤ S8192.size a
  k0_off201_inb : ∀ k0_t17 : Fin k0_t17_loop.trips, ∀ (r : Fin 2), ∀ a, (k0_off201 k0_t17 (BitVec.ofNat 32 (208 + 16 * r.val))) a + S16.size a ≤ S8192.size a
  k0_off202_inb : ∀ k0_t17 : Fin k0_t17_loop.trips, ∀ (r : Fin 2), ∀ a, (k0_off202 k0_t17 (BitVec.ofNat 32 (224 + 16 * r.val))) a + S16.size a ≤ S8192.size a
  k0_off203_inb : ∀ k0_t17 : Fin k0_t17_loop.trips, ∀ a, (k0_off203 k0_t17) a + S16.size a ≤ S8192.size a
  k0_off204_inb : ∀ (i : grid0.Coords) (k0_t16 : Fin (k0_t16_loop i).trips), ∀ a, (k0_off204 i k0_t16) a + S1x8192.size a ≤ S936x16384.size a
  k0_t18_ok : k0_t18_loop.OK
  k0_off205_inb : ∀ k0_t18 : Fin k0_t18_loop.trips, ∀ a, (k0_off205 k0_t18) a + S16.size a ≤ S8192.size a
  k0_off206_inb : ∀ k0_t18 : Fin k0_t18_loop.trips, ∀ (r : Fin 2), ∀ a, (k0_off206 k0_t18 (BitVec.ofNat 32 (16 * r.val))) a + S16.size a ≤ S8192.size a
  k0_off207_inb : ∀ k0_t18 : Fin k0_t18_loop.trips, ∀ (r : Fin 2), ∀ a, (k0_off207 k0_t18 (BitVec.ofNat 32 (16 + 16 * r.val))) a + S16.size a ≤ S8192.size a
  k0_off208_inb : ∀ k0_t18 : Fin k0_t18_loop.trips, ∀ (r : Fin 2), ∀ a, (k0_off208 k0_t18 (BitVec.ofNat 32 (32 + 16 * r.val))) a + S16.size a ≤ S8192.size a
  k0_off209_inb : ∀ k0_t18 : Fin k0_t18_loop.trips, ∀ (r : Fin 2), ∀ a, (k0_off209 k0_t18 (BitVec.ofNat 32 (48 + 16 * r.val))) a + S16.size a ≤ S8192.size a
  k0_off210_inb : ∀ k0_t18 : Fin k0_t18_loop.trips, ∀ (r : Fin 2), ∀ a, (k0_off210 k0_t18 (BitVec.ofNat 32 (64 + 16 * r.val))) a + S16.size a ≤ S8192.size a
  k0_off211_inb : ∀ k0_t18 : Fin k0_t18_loop.trips, ∀ (r : Fin 2), ∀ a, (k0_off211 k0_t18 (BitVec.ofNat 32 (80 + 16 * r.val))) a + S16.size a ≤ S8192.size a
  k0_off212_inb : ∀ k0_t18 : Fin k0_t18_loop.trips, ∀ (r : Fin 2), ∀ a, (k0_off212 k0_t18 (BitVec.ofNat 32 (96 + 16 * r.val))) a + S16.size a ≤ S8192.size a
  k0_off213_inb : ∀ k0_t18 : Fin k0_t18_loop.trips, ∀ (r : Fin 2), ∀ a, (k0_off213 k0_t18 (BitVec.ofNat 32 (112 + 16 * r.val))) a + S16.size a ≤ S8192.size a
  k0_off214_inb : ∀ k0_t18 : Fin k0_t18_loop.trips, ∀ (r : Fin 2), ∀ a, (k0_off214 k0_t18 (BitVec.ofNat 32 (128 + 16 * r.val))) a + S16.size a ≤ S8192.size a
  k0_off215_inb : ∀ k0_t18 : Fin k0_t18_loop.trips, ∀ (r : Fin 2), ∀ a, (k0_off215 k0_t18 (BitVec.ofNat 32 (144 + 16 * r.val))) a + S16.size a ≤ S8192.size a
  k0_off216_inb : ∀ k0_t18 : Fin k0_t18_loop.trips, ∀ (r : Fin 2), ∀ a, (k0_off216 k0_t18 (BitVec.ofNat 32 (160 + 16 * r.val))) a + S16.size a ≤ S8192.size a
  k0_off217_inb : ∀ k0_t18 : Fin k0_t18_loop.trips, ∀ (r : Fin 2), ∀ a, (k0_off217 k0_t18 (BitVec.ofNat 32 (176 + 16 * r.val))) a + S16.size a ≤ S8192.size a
  k0_off218_inb : ∀ k0_t18 : Fin k0_t18_loop.trips, ∀ (r : Fin 2), ∀ a, (k0_off218 k0_t18 (BitVec.ofNat 32 (192 + 16 * r.val))) a + S16.size a ≤ S8192.size a
  k0_off219_inb : ∀ k0_t18 : Fin k0_t18_loop.trips, ∀ (r : Fin 2), ∀ a, (k0_off219 k0_t18 (BitVec.ofNat 32 (208 + 16 * r.val))) a + S16.size a ≤ S8192.size a
  k0_off220_inb : ∀ k0_t18 : Fin k0_t18_loop.trips, ∀ (r : Fin 2), ∀ a, (k0_off220 k0_t18 (BitVec.ofNat 32 (224 + 16 * r.val))) a + S16.size a ≤ S8192.size a
  k0_off221_inb : ∀ k0_t18 : Fin k0_t18_loop.trips, ∀ a, (k0_off221 k0_t18) a + S16.size a ≤ S8192.size a
  k0_off222_inb : ∀ (i : grid0.Coords) (k0_t16 : Fin (k0_t16_loop i).trips), ∀ a, (k0_off222 i k0_t16) a + S1x8192.size a ≤ S936x16384.size a
  k0_t19_ok : ∀ i : grid0.Coords, (k0_t19_loop i).OK
  k0_off223_inb : ∀ (i : grid0.Coords) (k0_t19 : Fin (k0_t19_loop i).trips), ∀ a, (k0_off223 i k0_t19) a + S1x100000.size a ≤ S36x100000.size a
  k0_t20_ok : k0_t20_loop.OK
  k0_off224_inb : ∀ k0_t20 : Fin k0_t20_loop.trips, ∀ a, (k0_off224 k0_t20) a + S16.size a ≤ S8192.size a
  k0_off225_inb : ∀ k0_t20 : Fin k0_t20_loop.trips, ∀ (r : Fin 2), ∀ a, (k0_off225 k0_t20 (BitVec.ofNat 32 (16 * r.val))) a + S16.size a ≤ S8192.size a
  k0_off226_inb : ∀ k0_t20 : Fin k0_t20_loop.trips, ∀ (r : Fin 2), ∀ a, (k0_off226 k0_t20 (BitVec.ofNat 32 (16 + 16 * r.val))) a + S16.size a ≤ S8192.size a
  k0_off227_inb : ∀ k0_t20 : Fin k0_t20_loop.trips, ∀ (r : Fin 2), ∀ a, (k0_off227 k0_t20 (BitVec.ofNat 32 (32 + 16 * r.val))) a + S16.size a ≤ S8192.size a
  k0_off228_inb : ∀ k0_t20 : Fin k0_t20_loop.trips, ∀ (r : Fin 2), ∀ a, (k0_off228 k0_t20 (BitVec.ofNat 32 (48 + 16 * r.val))) a + S16.size a ≤ S8192.size a
  k0_off229_inb : ∀ k0_t20 : Fin k0_t20_loop.trips, ∀ (r : Fin 2), ∀ a, (k0_off229 k0_t20 (BitVec.ofNat 32 (64 + 16 * r.val))) a + S16.size a ≤ S8192.size a
  k0_off230_inb : ∀ k0_t20 : Fin k0_t20_loop.trips, ∀ (r : Fin 2), ∀ a, (k0_off230 k0_t20 (BitVec.ofNat 32 (80 + 16 * r.val))) a + S16.size a ≤ S8192.size a
  k0_off231_inb : ∀ k0_t20 : Fin k0_t20_loop.trips, ∀ (r : Fin 2), ∀ a, (k0_off231 k0_t20 (BitVec.ofNat 32 (96 + 16 * r.val))) a + S16.size a ≤ S8192.size a
  k0_off232_inb : ∀ k0_t20 : Fin k0_t20_loop.trips, ∀ (r : Fin 2), ∀ a, (k0_off232 k0_t20 (BitVec.ofNat 32 (112 + 16 * r.val))) a + S16.size a ≤ S8192.size a
  k0_off233_inb : ∀ k0_t20 : Fin k0_t20_loop.trips, ∀ (r : Fin 2), ∀ a, (k0_off233 k0_t20 (BitVec.ofNat 32 (128 + 16 * r.val))) a + S16.size a ≤ S8192.size a
  k0_off234_inb : ∀ k0_t20 : Fin k0_t20_loop.trips, ∀ (r : Fin 2), ∀ a, (k0_off234 k0_t20 (BitVec.ofNat 32 (144 + 16 * r.val))) a + S16.size a ≤ S8192.size a
  k0_off235_inb : ∀ k0_t20 : Fin k0_t20_loop.trips, ∀ (r : Fin 2), ∀ a, (k0_off235 k0_t20 (BitVec.ofNat 32 (160 + 16 * r.val))) a + S16.size a ≤ S8192.size a
  k0_off236_inb : ∀ k0_t20 : Fin k0_t20_loop.trips, ∀ (r : Fin 2), ∀ a, (k0_off236 k0_t20 (BitVec.ofNat 32 (176 + 16 * r.val))) a + S16.size a ≤ S8192.size a
  k0_off237_inb : ∀ k0_t20 : Fin k0_t20_loop.trips, ∀ (r : Fin 2), ∀ a, (k0_off237 k0_t20 (BitVec.ofNat 32 (192 + 16 * r.val))) a + S16.size a ≤ S8192.size a
  k0_off238_inb : ∀ k0_t20 : Fin k0_t20_loop.trips, ∀ (r : Fin 2), ∀ a, (k0_off238 k0_t20 (BitVec.ofNat 32 (208 + 16 * r.val))) a + S16.size a ≤ S8192.size a
  k0_off239_inb : ∀ k0_t20 : Fin k0_t20_loop.trips, ∀ (r : Fin 2), ∀ a, (k0_off239 k0_t20 (BitVec.ofNat 32 (224 + 16 * r.val))) a + S16.size a ≤ S8192.size a
  k0_off240_inb : ∀ k0_t20 : Fin k0_t20_loop.trips, ∀ a, (k0_off240 k0_t20) a + S16.size a ≤ S8192.size a
  k0_off241_inb : ∀ (i : grid0.Coords) (k0_t19 : Fin (k0_t19_loop i).trips), ∀ a, (k0_off241 i k0_t19) a + S1x8192.size a ≤ S936x16384.size a
  k0_t21_ok : k0_t21_loop.OK
  k0_off242_inb : ∀ k0_t21 : Fin k0_t21_loop.trips, ∀ a, (k0_off242 k0_t21) a + S16.size a ≤ S8192.size a
  k0_off243_inb : ∀ k0_t21 : Fin k0_t21_loop.trips, ∀ (r : Fin 2), ∀ a, (k0_off243 k0_t21 (BitVec.ofNat 32 (16 * r.val))) a + S16.size a ≤ S8192.size a
  k0_off244_inb : ∀ k0_t21 : Fin k0_t21_loop.trips, ∀ (r : Fin 2), ∀ a, (k0_off244 k0_t21 (BitVec.ofNat 32 (16 + 16 * r.val))) a + S16.size a ≤ S8192.size a
  k0_off245_inb : ∀ k0_t21 : Fin k0_t21_loop.trips, ∀ (r : Fin 2), ∀ a, (k0_off245 k0_t21 (BitVec.ofNat 32 (32 + 16 * r.val))) a + S16.size a ≤ S8192.size a
  k0_off246_inb : ∀ k0_t21 : Fin k0_t21_loop.trips, ∀ (r : Fin 2), ∀ a, (k0_off246 k0_t21 (BitVec.ofNat 32 (48 + 16 * r.val))) a + S16.size a ≤ S8192.size a
  k0_off247_inb : ∀ k0_t21 : Fin k0_t21_loop.trips, ∀ (r : Fin 2), ∀ a, (k0_off247 k0_t21 (BitVec.ofNat 32 (64 + 16 * r.val))) a + S16.size a ≤ S8192.size a
  k0_off248_inb : ∀ k0_t21 : Fin k0_t21_loop.trips, ∀ (r : Fin 2), ∀ a, (k0_off248 k0_t21 (BitVec.ofNat 32 (80 + 16 * r.val))) a + S16.size a ≤ S8192.size a
  k0_off249_inb : ∀ k0_t21 : Fin k0_t21_loop.trips, ∀ (r : Fin 2), ∀ a, (k0_off249 k0_t21 (BitVec.ofNat 32 (96 + 16 * r.val))) a + S16.size a ≤ S8192.size a
  k0_off250_inb : ∀ k0_t21 : Fin k0_t21_loop.trips, ∀ (r : Fin 2), ∀ a, (k0_off250 k0_t21 (BitVec.ofNat 32 (112 + 16 * r.val))) a + S16.size a ≤ S8192.size a
  k0_off251_inb : ∀ k0_t21 : Fin k0_t21_loop.trips, ∀ (r : Fin 2), ∀ a, (k0_off251 k0_t21 (BitVec.ofNat 32 (128 + 16 * r.val))) a + S16.size a ≤ S8192.size a
  k0_off252_inb : ∀ k0_t21 : Fin k0_t21_loop.trips, ∀ (r : Fin 2), ∀ a, (k0_off252 k0_t21 (BitVec.ofNat 32 (144 + 16 * r.val))) a + S16.size a ≤ S8192.size a
  k0_off253_inb : ∀ k0_t21 : Fin k0_t21_loop.trips, ∀ (r : Fin 2), ∀ a, (k0_off253 k0_t21 (BitVec.ofNat 32 (160 + 16 * r.val))) a + S16.size a ≤ S8192.size a
  k0_off254_inb : ∀ k0_t21 : Fin k0_t21_loop.trips, ∀ (r : Fin 2), ∀ a, (k0_off254 k0_t21 (BitVec.ofNat 32 (176 + 16 * r.val))) a + S16.size a ≤ S8192.size a
  k0_off255_inb : ∀ k0_t21 : Fin k0_t21_loop.trips, ∀ (r : Fin 2), ∀ a, (k0_off255 k0_t21 (BitVec.ofNat 32 (192 + 16 * r.val))) a + S16.size a ≤ S8192.size a
  k0_off256_inb : ∀ k0_t21 : Fin k0_t21_loop.trips, ∀ (r : Fin 2), ∀ a, (k0_off256 k0_t21 (BitVec.ofNat 32 (208 + 16 * r.val))) a + S16.size a ≤ S8192.size a
  k0_off257_inb : ∀ k0_t21 : Fin k0_t21_loop.trips, ∀ (r : Fin 2), ∀ a, (k0_off257 k0_t21 (BitVec.ofNat 32 (224 + 16 * r.val))) a + S16.size a ≤ S8192.size a
  k0_off258_inb : ∀ k0_t21 : Fin k0_t21_loop.trips, ∀ a, (k0_off258 k0_t21) a + S16.size a ≤ S8192.size a
  k0_off259_inb : ∀ (i : grid0.Coords) (k0_t19 : Fin (k0_t19_loop i).trips), ∀ a, (k0_off259 i k0_t19) a + S1x8192.size a ≤ S936x16384.size a
  k0_t22_ok : ∀ i : grid0.Coords, (k0_t22_loop i).OK
  k0_off260_inb : ∀ (i : grid0.Coords) (k0_t22 : Fin (k0_t22_loop i).trips), ∀ a, (k0_off260 i k0_t22) a + S1x100000.size a ≤ S36x100000.size a
  k0_t23_ok : k0_t23_loop.OK
  k0_off261_inb : ∀ k0_t23 : Fin k0_t23_loop.trips, ∀ a, (k0_off261 k0_t23) a + S16.size a ≤ S8192.size a
  k0_off262_inb : ∀ k0_t23 : Fin k0_t23_loop.trips, ∀ (r : Fin 2), ∀ a, (k0_off262 k0_t23 (BitVec.ofNat 32 (16 * r.val))) a + S16.size a ≤ S8192.size a
  k0_off263_inb : ∀ k0_t23 : Fin k0_t23_loop.trips, ∀ (r : Fin 2), ∀ a, (k0_off263 k0_t23 (BitVec.ofNat 32 (16 + 16 * r.val))) a + S16.size a ≤ S8192.size a
  k0_off264_inb : ∀ k0_t23 : Fin k0_t23_loop.trips, ∀ (r : Fin 2), ∀ a, (k0_off264 k0_t23 (BitVec.ofNat 32 (32 + 16 * r.val))) a + S16.size a ≤ S8192.size a
  k0_off265_inb : ∀ k0_t23 : Fin k0_t23_loop.trips, ∀ (r : Fin 2), ∀ a, (k0_off265 k0_t23 (BitVec.ofNat 32 (48 + 16 * r.val))) a + S16.size a ≤ S8192.size a
  k0_off266_inb : ∀ k0_t23 : Fin k0_t23_loop.trips, ∀ (r : Fin 2), ∀ a, (k0_off266 k0_t23 (BitVec.ofNat 32 (64 + 16 * r.val))) a + S16.size a ≤ S8192.size a
  k0_off267_inb : ∀ k0_t23 : Fin k0_t23_loop.trips, ∀ (r : Fin 2), ∀ a, (k0_off267 k0_t23 (BitVec.ofNat 32 (80 + 16 * r.val))) a + S16.size a ≤ S8192.size a
  k0_off268_inb : ∀ k0_t23 : Fin k0_t23_loop.trips, ∀ (r : Fin 2), ∀ a, (k0_off268 k0_t23 (BitVec.ofNat 32 (96 + 16 * r.val))) a + S16.size a ≤ S8192.size a
  k0_off269_inb : ∀ k0_t23 : Fin k0_t23_loop.trips, ∀ (r : Fin 2), ∀ a, (k0_off269 k0_t23 (BitVec.ofNat 32 (112 + 16 * r.val))) a + S16.size a ≤ S8192.size a
  k0_off270_inb : ∀ k0_t23 : Fin k0_t23_loop.trips, ∀ (r : Fin 2), ∀ a, (k0_off270 k0_t23 (BitVec.ofNat 32 (128 + 16 * r.val))) a + S16.size a ≤ S8192.size a
  k0_off271_inb : ∀ k0_t23 : Fin k0_t23_loop.trips, ∀ (r : Fin 2), ∀ a, (k0_off271 k0_t23 (BitVec.ofNat 32 (144 + 16 * r.val))) a + S16.size a ≤ S8192.size a
  k0_off272_inb : ∀ k0_t23 : Fin k0_t23_loop.trips, ∀ (r : Fin 2), ∀ a, (k0_off272 k0_t23 (BitVec.ofNat 32 (160 + 16 * r.val))) a + S16.size a ≤ S8192.size a
  k0_off273_inb : ∀ k0_t23 : Fin k0_t23_loop.trips, ∀ (r : Fin 2), ∀ a, (k0_off273 k0_t23 (BitVec.ofNat 32 (176 + 16 * r.val))) a + S16.size a ≤ S8192.size a
  k0_off274_inb : ∀ k0_t23 : Fin k0_t23_loop.trips, ∀ (r : Fin 2), ∀ a, (k0_off274 k0_t23 (BitVec.ofNat 32 (192 + 16 * r.val))) a + S16.size a ≤ S8192.size a
  k0_off275_inb : ∀ k0_t23 : Fin k0_t23_loop.trips, ∀ (r : Fin 2), ∀ a, (k0_off275 k0_t23 (BitVec.ofNat 32 (208 + 16 * r.val))) a + S16.size a ≤ S8192.size a
  k0_off276_inb : ∀ k0_t23 : Fin k0_t23_loop.trips, ∀ (r : Fin 2), ∀ a, (k0_off276 k0_t23 (BitVec.ofNat 32 (224 + 16 * r.val))) a + S16.size a ≤ S8192.size a
  k0_off277_inb : ∀ k0_t23 : Fin k0_t23_loop.trips, ∀ a, (k0_off277 k0_t23) a + S16.size a ≤ S8192.size a
  k0_off278_inb : ∀ (i : grid0.Coords) (k0_t22 : Fin (k0_t22_loop i).trips), ∀ a, (k0_off278 i k0_t22) a + S1x8192.size a ≤ S936x16384.size a
  k0_t24_ok : k0_t24_loop.OK
  k0_off279_inb : ∀ k0_t24 : Fin k0_t24_loop.trips, ∀ a, (k0_off279 k0_t24) a + S16.size a ≤ S8192.size a
  k0_off280_inb : ∀ k0_t24 : Fin k0_t24_loop.trips, ∀ (r : Fin 2), ∀ a, (k0_off280 k0_t24 (BitVec.ofNat 32 (16 * r.val))) a + S16.size a ≤ S8192.size a
  k0_off281_inb : ∀ k0_t24 : Fin k0_t24_loop.trips, ∀ (r : Fin 2), ∀ a, (k0_off281 k0_t24 (BitVec.ofNat 32 (16 + 16 * r.val))) a + S16.size a ≤ S8192.size a
  k0_off282_inb : ∀ k0_t24 : Fin k0_t24_loop.trips, ∀ (r : Fin 2), ∀ a, (k0_off282 k0_t24 (BitVec.ofNat 32 (32 + 16 * r.val))) a + S16.size a ≤ S8192.size a
  k0_off283_inb : ∀ k0_t24 : Fin k0_t24_loop.trips, ∀ (r : Fin 2), ∀ a, (k0_off283 k0_t24 (BitVec.ofNat 32 (48 + 16 * r.val))) a + S16.size a ≤ S8192.size a
  k0_off284_inb : ∀ k0_t24 : Fin k0_t24_loop.trips, ∀ (r : Fin 2), ∀ a, (k0_off284 k0_t24 (BitVec.ofNat 32 (64 + 16 * r.val))) a + S16.size a ≤ S8192.size a
  k0_off285_inb : ∀ k0_t24 : Fin k0_t24_loop.trips, ∀ (r : Fin 2), ∀ a, (k0_off285 k0_t24 (BitVec.ofNat 32 (80 + 16 * r.val))) a + S16.size a ≤ S8192.size a
  k0_off286_inb : ∀ k0_t24 : Fin k0_t24_loop.trips, ∀ (r : Fin 2), ∀ a, (k0_off286 k0_t24 (BitVec.ofNat 32 (96 + 16 * r.val))) a + S16.size a ≤ S8192.size a
  k0_off287_inb : ∀ k0_t24 : Fin k0_t24_loop.trips, ∀ (r : Fin 2), ∀ a, (k0_off287 k0_t24 (BitVec.ofNat 32 (112 + 16 * r.val))) a + S16.size a ≤ S8192.size a
  k0_off288_inb : ∀ k0_t24 : Fin k0_t24_loop.trips, ∀ (r : Fin 2), ∀ a, (k0_off288 k0_t24 (BitVec.ofNat 32 (128 + 16 * r.val))) a + S16.size a ≤ S8192.size a
  k0_off289_inb : ∀ k0_t24 : Fin k0_t24_loop.trips, ∀ (r : Fin 2), ∀ a, (k0_off289 k0_t24 (BitVec.ofNat 32 (144 + 16 * r.val))) a + S16.size a ≤ S8192.size a
  k0_off290_inb : ∀ k0_t24 : Fin k0_t24_loop.trips, ∀ (r : Fin 2), ∀ a, (k0_off290 k0_t24 (BitVec.ofNat 32 (160 + 16 * r.val))) a + S16.size a ≤ S8192.size a
  k0_off291_inb : ∀ k0_t24 : Fin k0_t24_loop.trips, ∀ (r : Fin 2), ∀ a, (k0_off291 k0_t24 (BitVec.ofNat 32 (176 + 16 * r.val))) a + S16.size a ≤ S8192.size a
  k0_off292_inb : ∀ k0_t24 : Fin k0_t24_loop.trips, ∀ (r : Fin 2), ∀ a, (k0_off292 k0_t24 (BitVec.ofNat 32 (192 + 16 * r.val))) a + S16.size a ≤ S8192.size a
  k0_off293_inb : ∀ k0_t24 : Fin k0_t24_loop.trips, ∀ (r : Fin 2), ∀ a, (k0_off293 k0_t24 (BitVec.ofNat 32 (208 + 16 * r.val))) a + S16.size a ≤ S8192.size a
  k0_off294_inb : ∀ k0_t24 : Fin k0_t24_loop.trips, ∀ (r : Fin 2), ∀ a, (k0_off294 k0_t24 (BitVec.ofNat 32 (224 + 16 * r.val))) a + S16.size a ≤ S8192.size a
  k0_off295_inb : ∀ k0_t24 : Fin k0_t24_loop.trips, ∀ a, (k0_off295 k0_t24) a + S16.size a ≤ S8192.size a
  k0_off296_inb : ∀ (i : grid0.Coords) (k0_t22 : Fin (k0_t22_loop i).trips), ∀ a, (k0_off296 i k0_t22) a + S1x8192.size a ≤ S936x16384.size a
  k0_t25_ok : ∀ i : grid0.Coords, (k0_t25_loop i).OK
  k0_off297_inb : ∀ (i : grid0.Coords) (k0_t25 : Fin (k0_t25_loop i).trips), ∀ a, (k0_off297 i k0_t25) a + S1x100000.size a ≤ S36x100000.size a
  k0_t26_ok : k0_t26_loop.OK
  k0_off298_inb : ∀ k0_t26 : Fin k0_t26_loop.trips, ∀ a, (k0_off298 k0_t26) a + S16.size a ≤ S8192.size a
  k0_off299_inb : ∀ k0_t26 : Fin k0_t26_loop.trips, ∀ (r : Fin 2), ∀ a, (k0_off299 k0_t26 (BitVec.ofNat 32 (16 * r.val))) a + S16.size a ≤ S8192.size a
  k0_off300_inb : ∀ k0_t26 : Fin k0_t26_loop.trips, ∀ (r : Fin 2), ∀ a, (k0_off300 k0_t26 (BitVec.ofNat 32 (16 + 16 * r.val))) a + S16.size a ≤ S8192.size a
  k0_off301_inb : ∀ k0_t26 : Fin k0_t26_loop.trips, ∀ (r : Fin 2), ∀ a, (k0_off301 k0_t26 (BitVec.ofNat 32 (32 + 16 * r.val))) a + S16.size a ≤ S8192.size a
  k0_off302_inb : ∀ k0_t26 : Fin k0_t26_loop.trips, ∀ (r : Fin 2), ∀ a, (k0_off302 k0_t26 (BitVec.ofNat 32 (48 + 16 * r.val))) a + S16.size a ≤ S8192.size a
  k0_off303_inb : ∀ k0_t26 : Fin k0_t26_loop.trips, ∀ (r : Fin 2), ∀ a, (k0_off303 k0_t26 (BitVec.ofNat 32 (64 + 16 * r.val))) a + S16.size a ≤ S8192.size a
  k0_off304_inb : ∀ k0_t26 : Fin k0_t26_loop.trips, ∀ (r : Fin 2), ∀ a, (k0_off304 k0_t26 (BitVec.ofNat 32 (80 + 16 * r.val))) a + S16.size a ≤ S8192.size a
  k0_off305_inb : ∀ k0_t26 : Fin k0_t26_loop.trips, ∀ (r : Fin 2), ∀ a, (k0_off305 k0_t26 (BitVec.ofNat 32 (96 + 16 * r.val))) a + S16.size a ≤ S8192.size a
  k0_off306_inb : ∀ k0_t26 : Fin k0_t26_loop.trips, ∀ (r : Fin 2), ∀ a, (k0_off306 k0_t26 (BitVec.ofNat 32 (112 + 16 * r.val))) a + S16.size a ≤ S8192.size a
  k0_off307_inb : ∀ k0_t26 : Fin k0_t26_loop.trips, ∀ (r : Fin 2), ∀ a, (k0_off307 k0_t26 (BitVec.ofNat 32 (128 + 16 * r.val))) a + S16.size a ≤ S8192.size a
  k0_off308_inb : ∀ k0_t26 : Fin k0_t26_loop.trips, ∀ (r : Fin 2), ∀ a, (k0_off308 k0_t26 (BitVec.ofNat 32 (144 + 16 * r.val))) a + S16.size a ≤ S8192.size a
  k0_off309_inb : ∀ k0_t26 : Fin k0_t26_loop.trips, ∀ (r : Fin 2), ∀ a, (k0_off309 k0_t26 (BitVec.ofNat 32 (160 + 16 * r.val))) a + S16.size a ≤ S8192.size a
  k0_off310_inb : ∀ k0_t26 : Fin k0_t26_loop.trips, ∀ (r : Fin 2), ∀ a, (k0_off310 k0_t26 (BitVec.ofNat 32 (176 + 16 * r.val))) a + S16.size a ≤ S8192.size a
  k0_off311_inb : ∀ k0_t26 : Fin k0_t26_loop.trips, ∀ (r : Fin 2), ∀ a, (k0_off311 k0_t26 (BitVec.ofNat 32 (192 + 16 * r.val))) a + S16.size a ≤ S8192.size a
  k0_off312_inb : ∀ k0_t26 : Fin k0_t26_loop.trips, ∀ (r : Fin 2), ∀ a, (k0_off312 k0_t26 (BitVec.ofNat 32 (208 + 16 * r.val))) a + S16.size a ≤ S8192.size a
  k0_off313_inb : ∀ k0_t26 : Fin k0_t26_loop.trips, ∀ (r : Fin 2), ∀ a, (k0_off313 k0_t26 (BitVec.ofNat 32 (224 + 16 * r.val))) a + S16.size a ≤ S8192.size a
  k0_off314_inb : ∀ k0_t26 : Fin k0_t26_loop.trips, ∀ a, (k0_off314 k0_t26) a + S16.size a ≤ S8192.size a
  k0_off315_inb : ∀ (i : grid0.Coords) (k0_t25 : Fin (k0_t25_loop i).trips), ∀ a, (k0_off315 i k0_t25) a + S1x8192.size a ≤ S936x16384.size a
  k0_t27_ok : k0_t27_loop.OK
  k0_off316_inb : ∀ k0_t27 : Fin k0_t27_loop.trips, ∀ a, (k0_off316 k0_t27) a + S16.size a ≤ S8192.size a
  k0_off317_inb : ∀ k0_t27 : Fin k0_t27_loop.trips, ∀ (r : Fin 2), ∀ a, (k0_off317 k0_t27 (BitVec.ofNat 32 (16 * r.val))) a + S16.size a ≤ S8192.size a
  k0_off318_inb : ∀ k0_t27 : Fin k0_t27_loop.trips, ∀ (r : Fin 2), ∀ a, (k0_off318 k0_t27 (BitVec.ofNat 32 (16 + 16 * r.val))) a + S16.size a ≤ S8192.size a
  k0_off319_inb : ∀ k0_t27 : Fin k0_t27_loop.trips, ∀ (r : Fin 2), ∀ a, (k0_off319 k0_t27 (BitVec.ofNat 32 (32 + 16 * r.val))) a + S16.size a ≤ S8192.size a
  k0_off320_inb : ∀ k0_t27 : Fin k0_t27_loop.trips, ∀ (r : Fin 2), ∀ a, (k0_off320 k0_t27 (BitVec.ofNat 32 (48 + 16 * r.val))) a + S16.size a ≤ S8192.size a
  k0_off321_inb : ∀ k0_t27 : Fin k0_t27_loop.trips, ∀ (r : Fin 2), ∀ a, (k0_off321 k0_t27 (BitVec.ofNat 32 (64 + 16 * r.val))) a + S16.size a ≤ S8192.size a
  k0_off322_inb : ∀ k0_t27 : Fin k0_t27_loop.trips, ∀ (r : Fin 2), ∀ a, (k0_off322 k0_t27 (BitVec.ofNat 32 (80 + 16 * r.val))) a + S16.size a ≤ S8192.size a
  k0_off323_inb : ∀ k0_t27 : Fin k0_t27_loop.trips, ∀ (r : Fin 2), ∀ a, (k0_off323 k0_t27 (BitVec.ofNat 32 (96 + 16 * r.val))) a + S16.size a ≤ S8192.size a
  k0_off324_inb : ∀ k0_t27 : Fin k0_t27_loop.trips, ∀ (r : Fin 2), ∀ a, (k0_off324 k0_t27 (BitVec.ofNat 32 (112 + 16 * r.val))) a + S16.size a ≤ S8192.size a
  k0_off325_inb : ∀ k0_t27 : Fin k0_t27_loop.trips, ∀ (r : Fin 2), ∀ a, (k0_off325 k0_t27 (BitVec.ofNat 32 (128 + 16 * r.val))) a + S16.size a ≤ S8192.size a
  k0_off326_inb : ∀ k0_t27 : Fin k0_t27_loop.trips, ∀ (r : Fin 2), ∀ a, (k0_off326 k0_t27 (BitVec.ofNat 32 (144 + 16 * r.val))) a + S16.size a ≤ S8192.size a
  k0_off327_inb : ∀ k0_t27 : Fin k0_t27_loop.trips, ∀ (r : Fin 2), ∀ a, (k0_off327 k0_t27 (BitVec.ofNat 32 (160 + 16 * r.val))) a + S16.size a ≤ S8192.size a
  k0_off328_inb : ∀ k0_t27 : Fin k0_t27_loop.trips, ∀ (r : Fin 2), ∀ a, (k0_off328 k0_t27 (BitVec.ofNat 32 (176 + 16 * r.val))) a + S16.size a ≤ S8192.size a
  k0_off329_inb : ∀ k0_t27 : Fin k0_t27_loop.trips, ∀ (r : Fin 2), ∀ a, (k0_off329 k0_t27 (BitVec.ofNat 32 (192 + 16 * r.val))) a + S16.size a ≤ S8192.size a
  k0_off330_inb : ∀ k0_t27 : Fin k0_t27_loop.trips, ∀ (r : Fin 2), ∀ a, (k0_off330 k0_t27 (BitVec.ofNat 32 (208 + 16 * r.val))) a + S16.size a ≤ S8192.size a
  k0_off331_inb : ∀ k0_t27 : Fin k0_t27_loop.trips, ∀ (r : Fin 2), ∀ a, (k0_off331 k0_t27 (BitVec.ofNat 32 (224 + 16 * r.val))) a + S16.size a ≤ S8192.size a
  k0_off332_inb : ∀ k0_t27 : Fin k0_t27_loop.trips, ∀ a, (k0_off332 k0_t27) a + S16.size a ≤ S8192.size a
  k0_off333_inb : ∀ (i : grid0.Coords) (k0_t25 : Fin (k0_t25_loop i).trips), ∀ a, (k0_off333 i k0_t25) a + S1x8192.size a ≤ S936x16384.size a
  k0_t28_ok : ∀ i : grid0.Coords, (k0_t28_loop i).OK
  k0_off334_inb : ∀ (i : grid0.Coords) (k0_t28 : Fin (k0_t28_loop i).trips), ∀ a, (k0_off334 i k0_t28) a + S1x100000.size a ≤ S36x100000.size a
  k0_t29_ok : k0_t29_loop.OK
  k0_off335_inb : ∀ k0_t29 : Fin k0_t29_loop.trips, ∀ a, (k0_off335 k0_t29) a + S16.size a ≤ S8192.size a
  k0_off336_inb : ∀ k0_t29 : Fin k0_t29_loop.trips, ∀ (r : Fin 2), ∀ a, (k0_off336 k0_t29 (BitVec.ofNat 32 (16 * r.val))) a + S16.size a ≤ S8192.size a
  k0_off337_inb : ∀ k0_t29 : Fin k0_t29_loop.trips, ∀ (r : Fin 2), ∀ a, (k0_off337 k0_t29 (BitVec.ofNat 32 (16 + 16 * r.val))) a + S16.size a ≤ S8192.size a
  k0_off338_inb : ∀ k0_t29 : Fin k0_t29_loop.trips, ∀ (r : Fin 2), ∀ a, (k0_off338 k0_t29 (BitVec.ofNat 32 (32 + 16 * r.val))) a + S16.size a ≤ S8192.size a
  k0_off339_inb : ∀ k0_t29 : Fin k0_t29_loop.trips, ∀ (r : Fin 2), ∀ a, (k0_off339 k0_t29 (BitVec.ofNat 32 (48 + 16 * r.val))) a + S16.size a ≤ S8192.size a
  k0_off340_inb : ∀ k0_t29 : Fin k0_t29_loop.trips, ∀ (r : Fin 2), ∀ a, (k0_off340 k0_t29 (BitVec.ofNat 32 (64 + 16 * r.val))) a + S16.size a ≤ S8192.size a
  k0_off341_inb : ∀ k0_t29 : Fin k0_t29_loop.trips, ∀ (r : Fin 2), ∀ a, (k0_off341 k0_t29 (BitVec.ofNat 32 (80 + 16 * r.val))) a + S16.size a ≤ S8192.size a
  k0_off342_inb : ∀ k0_t29 : Fin k0_t29_loop.trips, ∀ (r : Fin 2), ∀ a, (k0_off342 k0_t29 (BitVec.ofNat 32 (96 + 16 * r.val))) a + S16.size a ≤ S8192.size a
  k0_off343_inb : ∀ k0_t29 : Fin k0_t29_loop.trips, ∀ (r : Fin 2), ∀ a, (k0_off343 k0_t29 (BitVec.ofNat 32 (112 + 16 * r.val))) a + S16.size a ≤ S8192.size a
  k0_off344_inb : ∀ k0_t29 : Fin k0_t29_loop.trips, ∀ (r : Fin 2), ∀ a, (k0_off344 k0_t29 (BitVec.ofNat 32 (128 + 16 * r.val))) a + S16.size a ≤ S8192.size a
  k0_off345_inb : ∀ k0_t29 : Fin k0_t29_loop.trips, ∀ (r : Fin 2), ∀ a, (k0_off345 k0_t29 (BitVec.ofNat 32 (144 + 16 * r.val))) a + S16.size a ≤ S8192.size a
  k0_off346_inb : ∀ k0_t29 : Fin k0_t29_loop.trips, ∀ (r : Fin 2), ∀ a, (k0_off346 k0_t29 (BitVec.ofNat 32 (160 + 16 * r.val))) a + S16.size a ≤ S8192.size a
  k0_off347_inb : ∀ k0_t29 : Fin k0_t29_loop.trips, ∀ (r : Fin 2), ∀ a, (k0_off347 k0_t29 (BitVec.ofNat 32 (176 + 16 * r.val))) a + S16.size a ≤ S8192.size a
  k0_off348_inb : ∀ k0_t29 : Fin k0_t29_loop.trips, ∀ (r : Fin 2), ∀ a, (k0_off348 k0_t29 (BitVec.ofNat 32 (192 + 16 * r.val))) a + S16.size a ≤ S8192.size a
  k0_off349_inb : ∀ k0_t29 : Fin k0_t29_loop.trips, ∀ (r : Fin 2), ∀ a, (k0_off349 k0_t29 (BitVec.ofNat 32 (208 + 16 * r.val))) a + S16.size a ≤ S8192.size a
  k0_off350_inb : ∀ k0_t29 : Fin k0_t29_loop.trips, ∀ (r : Fin 2), ∀ a, (k0_off350 k0_t29 (BitVec.ofNat 32 (224 + 16 * r.val))) a + S16.size a ≤ S8192.size a
  k0_off351_inb : ∀ k0_t29 : Fin k0_t29_loop.trips, ∀ a, (k0_off351 k0_t29) a + S16.size a ≤ S8192.size a
  k0_off352_inb : ∀ (i : grid0.Coords) (k0_t28 : Fin (k0_t28_loop i).trips), ∀ a, (k0_off352 i k0_t28) a + S1x8192.size a ≤ S936x16384.size a
  k0_t30_ok : k0_t30_loop.OK
  k0_off353_inb : ∀ k0_t30 : Fin k0_t30_loop.trips, ∀ a, (k0_off353 k0_t30) a + S16.size a ≤ S8192.size a
  k0_off354_inb : ∀ k0_t30 : Fin k0_t30_loop.trips, ∀ (r : Fin 2), ∀ a, (k0_off354 k0_t30 (BitVec.ofNat 32 (16 * r.val))) a + S16.size a ≤ S8192.size a
  k0_off355_inb : ∀ k0_t30 : Fin k0_t30_loop.trips, ∀ (r : Fin 2), ∀ a, (k0_off355 k0_t30 (BitVec.ofNat 32 (16 + 16 * r.val))) a + S16.size a ≤ S8192.size a
  k0_off356_inb : ∀ k0_t30 : Fin k0_t30_loop.trips, ∀ (r : Fin 2), ∀ a, (k0_off356 k0_t30 (BitVec.ofNat 32 (32 + 16 * r.val))) a + S16.size a ≤ S8192.size a
  k0_off357_inb : ∀ k0_t30 : Fin k0_t30_loop.trips, ∀ (r : Fin 2), ∀ a, (k0_off357 k0_t30 (BitVec.ofNat 32 (48 + 16 * r.val))) a + S16.size a ≤ S8192.size a
  k0_off358_inb : ∀ k0_t30 : Fin k0_t30_loop.trips, ∀ (r : Fin 2), ∀ a, (k0_off358 k0_t30 (BitVec.ofNat 32 (64 + 16 * r.val))) a + S16.size a ≤ S8192.size a
  k0_off359_inb : ∀ k0_t30 : Fin k0_t30_loop.trips, ∀ (r : Fin 2), ∀ a, (k0_off359 k0_t30 (BitVec.ofNat 32 (80 + 16 * r.val))) a + S16.size a ≤ S8192.size a
  k0_off360_inb : ∀ k0_t30 : Fin k0_t30_loop.trips, ∀ (r : Fin 2), ∀ a, (k0_off360 k0_t30 (BitVec.ofNat 32 (96 + 16 * r.val))) a + S16.size a ≤ S8192.size a
  k0_off361_inb : ∀ k0_t30 : Fin k0_t30_loop.trips, ∀ (r : Fin 2), ∀ a, (k0_off361 k0_t30 (BitVec.ofNat 32 (112 + 16 * r.val))) a + S16.size a ≤ S8192.size a
  k0_off362_inb : ∀ k0_t30 : Fin k0_t30_loop.trips, ∀ (r : Fin 2), ∀ a, (k0_off362 k0_t30 (BitVec.ofNat 32 (128 + 16 * r.val))) a + S16.size a ≤ S8192.size a
  k0_off363_inb : ∀ k0_t30 : Fin k0_t30_loop.trips, ∀ (r : Fin 2), ∀ a, (k0_off363 k0_t30 (BitVec.ofNat 32 (144 + 16 * r.val))) a + S16.size a ≤ S8192.size a
  k0_off364_inb : ∀ k0_t30 : Fin k0_t30_loop.trips, ∀ (r : Fin 2), ∀ a, (k0_off364 k0_t30 (BitVec.ofNat 32 (160 + 16 * r.val))) a + S16.size a ≤ S8192.size a
  k0_off365_inb : ∀ k0_t30 : Fin k0_t30_loop.trips, ∀ (r : Fin 2), ∀ a, (k0_off365 k0_t30 (BitVec.ofNat 32 (176 + 16 * r.val))) a + S16.size a ≤ S8192.size a
  k0_off366_inb : ∀ k0_t30 : Fin k0_t30_loop.trips, ∀ (r : Fin 2), ∀ a, (k0_off366 k0_t30 (BitVec.ofNat 32 (192 + 16 * r.val))) a + S16.size a ≤ S8192.size a
  k0_off367_inb : ∀ k0_t30 : Fin k0_t30_loop.trips, ∀ (r : Fin 2), ∀ a, (k0_off367 k0_t30 (BitVec.ofNat 32 (208 + 16 * r.val))) a + S16.size a ≤ S8192.size a
  k0_off368_inb : ∀ k0_t30 : Fin k0_t30_loop.trips, ∀ (r : Fin 2), ∀ a, (k0_off368 k0_t30 (BitVec.ofNat 32 (224 + 16 * r.val))) a + S16.size a ≤ S8192.size a
  k0_off369_inb : ∀ k0_t30 : Fin k0_t30_loop.trips, ∀ a, (k0_off369 k0_t30) a + S16.size a ≤ S8192.size a
  k0_off370_inb : ∀ (i : grid0.Coords) (k0_t28 : Fin (k0_t28_loop i).trips), ∀ a, (k0_off370 i k0_t28) a + S1x8192.size a ≤ S936x16384.size a
  k0_t31_ok : ∀ i : grid0.Coords, (k0_t31_loop i).OK
  k0_off371_inb : ∀ (i : grid0.Coords) (k0_t31 : Fin (k0_t31_loop i).trips), ∀ a, (k0_off371 i k0_t31) a + S1x100000.size a ≤ S36x100000.size a
  k0_t32_ok : k0_t32_loop.OK
  k0_off372_inb : ∀ k0_t32 : Fin k0_t32_loop.trips, ∀ a, (k0_off372 k0_t32) a + S16.size a ≤ S8192.size a
  k0_off373_inb : ∀ k0_t32 : Fin k0_t32_loop.trips, ∀ (r : Fin 2), ∀ a, (k0_off373 k0_t32 (BitVec.ofNat 32 (16 * r.val))) a + S16.size a ≤ S8192.size a
  k0_off374_inb : ∀ k0_t32 : Fin k0_t32_loop.trips, ∀ (r : Fin 2), ∀ a, (k0_off374 k0_t32 (BitVec.ofNat 32 (16 + 16 * r.val))) a + S16.size a ≤ S8192.size a
  k0_off375_inb : ∀ k0_t32 : Fin k0_t32_loop.trips, ∀ (r : Fin 2), ∀ a, (k0_off375 k0_t32 (BitVec.ofNat 32 (32 + 16 * r.val))) a + S16.size a ≤ S8192.size a
  k0_off376_inb : ∀ k0_t32 : Fin k0_t32_loop.trips, ∀ (r : Fin 2), ∀ a, (k0_off376 k0_t32 (BitVec.ofNat 32 (48 + 16 * r.val))) a + S16.size a ≤ S8192.size a
  k0_off377_inb : ∀ k0_t32 : Fin k0_t32_loop.trips, ∀ (r : Fin 2), ∀ a, (k0_off377 k0_t32 (BitVec.ofNat 32 (64 + 16 * r.val))) a + S16.size a ≤ S8192.size a
  k0_off378_inb : ∀ k0_t32 : Fin k0_t32_loop.trips, ∀ (r : Fin 2), ∀ a, (k0_off378 k0_t32 (BitVec.ofNat 32 (80 + 16 * r.val))) a + S16.size a ≤ S8192.size a
  k0_off379_inb : ∀ k0_t32 : Fin k0_t32_loop.trips, ∀ (r : Fin 2), ∀ a, (k0_off379 k0_t32 (BitVec.ofNat 32 (96 + 16 * r.val))) a + S16.size a ≤ S8192.size a
  k0_off380_inb : ∀ k0_t32 : Fin k0_t32_loop.trips, ∀ (r : Fin 2), ∀ a, (k0_off380 k0_t32 (BitVec.ofNat 32 (112 + 16 * r.val))) a + S16.size a ≤ S8192.size a
  k0_off381_inb : ∀ k0_t32 : Fin k0_t32_loop.trips, ∀ (r : Fin 2), ∀ a, (k0_off381 k0_t32 (BitVec.ofNat 32 (128 + 16 * r.val))) a + S16.size a ≤ S8192.size a
  k0_off382_inb : ∀ k0_t32 : Fin k0_t32_loop.trips, ∀ (r : Fin 2), ∀ a, (k0_off382 k0_t32 (BitVec.ofNat 32 (144 + 16 * r.val))) a + S16.size a ≤ S8192.size a
  k0_off383_inb : ∀ k0_t32 : Fin k0_t32_loop.trips, ∀ (r : Fin 2), ∀ a, (k0_off383 k0_t32 (BitVec.ofNat 32 (160 + 16 * r.val))) a + S16.size a ≤ S8192.size a
  k0_off384_inb : ∀ k0_t32 : Fin k0_t32_loop.trips, ∀ (r : Fin 2), ∀ a, (k0_off384 k0_t32 (BitVec.ofNat 32 (176 + 16 * r.val))) a + S16.size a ≤ S8192.size a
  k0_off385_inb : ∀ k0_t32 : Fin k0_t32_loop.trips, ∀ (r : Fin 2), ∀ a, (k0_off385 k0_t32 (BitVec.ofNat 32 (192 + 16 * r.val))) a + S16.size a ≤ S8192.size a
  k0_off386_inb : ∀ k0_t32 : Fin k0_t32_loop.trips, ∀ (r : Fin 2), ∀ a, (k0_off386 k0_t32 (BitVec.ofNat 32 (208 + 16 * r.val))) a + S16.size a ≤ S8192.size a
  k0_off387_inb : ∀ k0_t32 : Fin k0_t32_loop.trips, ∀ (r : Fin 2), ∀ a, (k0_off387 k0_t32 (BitVec.ofNat 32 (224 + 16 * r.val))) a + S16.size a ≤ S8192.size a
  k0_off388_inb : ∀ k0_t32 : Fin k0_t32_loop.trips, ∀ a, (k0_off388 k0_t32) a + S16.size a ≤ S8192.size a
  k0_off389_inb : ∀ (i : grid0.Coords) (k0_t31 : Fin (k0_t31_loop i).trips), ∀ a, (k0_off389 i k0_t31) a + S1x8192.size a ≤ S936x16384.size a
  k0_t33_ok : k0_t33_loop.OK
  k0_off390_inb : ∀ k0_t33 : Fin k0_t33_loop.trips, ∀ a, (k0_off390 k0_t33) a + S16.size a ≤ S8192.size a
  k0_off391_inb : ∀ k0_t33 : Fin k0_t33_loop.trips, ∀ (r : Fin 2), ∀ a, (k0_off391 k0_t33 (BitVec.ofNat 32 (16 * r.val))) a + S16.size a ≤ S8192.size a
  k0_off392_inb : ∀ k0_t33 : Fin k0_t33_loop.trips, ∀ (r : Fin 2), ∀ a, (k0_off392 k0_t33 (BitVec.ofNat 32 (16 + 16 * r.val))) a + S16.size a ≤ S8192.size a
  k0_off393_inb : ∀ k0_t33 : Fin k0_t33_loop.trips, ∀ (r : Fin 2), ∀ a, (k0_off393 k0_t33 (BitVec.ofNat 32 (32 + 16 * r.val))) a + S16.size a ≤ S8192.size a
  k0_off394_inb : ∀ k0_t33 : Fin k0_t33_loop.trips, ∀ (r : Fin 2), ∀ a, (k0_off394 k0_t33 (BitVec.ofNat 32 (48 + 16 * r.val))) a + S16.size a ≤ S8192.size a
  k0_off395_inb : ∀ k0_t33 : Fin k0_t33_loop.trips, ∀ (r : Fin 2), ∀ a, (k0_off395 k0_t33 (BitVec.ofNat 32 (64 + 16 * r.val))) a + S16.size a ≤ S8192.size a
  k0_off396_inb : ∀ k0_t33 : Fin k0_t33_loop.trips, ∀ (r : Fin 2), ∀ a, (k0_off396 k0_t33 (BitVec.ofNat 32 (80 + 16 * r.val))) a + S16.size a ≤ S8192.size a
  k0_off397_inb : ∀ k0_t33 : Fin k0_t33_loop.trips, ∀ (r : Fin 2), ∀ a, (k0_off397 k0_t33 (BitVec.ofNat 32 (96 + 16 * r.val))) a + S16.size a ≤ S8192.size a
  k0_off398_inb : ∀ k0_t33 : Fin k0_t33_loop.trips, ∀ (r : Fin 2), ∀ a, (k0_off398 k0_t33 (BitVec.ofNat 32 (112 + 16 * r.val))) a + S16.size a ≤ S8192.size a
  k0_off399_inb : ∀ k0_t33 : Fin k0_t33_loop.trips, ∀ (r : Fin 2), ∀ a, (k0_off399 k0_t33 (BitVec.ofNat 32 (128 + 16 * r.val))) a + S16.size a ≤ S8192.size a
  k0_off400_inb : ∀ k0_t33 : Fin k0_t33_loop.trips, ∀ (r : Fin 2), ∀ a, (k0_off400 k0_t33 (BitVec.ofNat 32 (144 + 16 * r.val))) a + S16.size a ≤ S8192.size a
  k0_off401_inb : ∀ k0_t33 : Fin k0_t33_loop.trips, ∀ (r : Fin 2), ∀ a, (k0_off401 k0_t33 (BitVec.ofNat 32 (160 + 16 * r.val))) a + S16.size a ≤ S8192.size a
  k0_off402_inb : ∀ k0_t33 : Fin k0_t33_loop.trips, ∀ (r : Fin 2), ∀ a, (k0_off402 k0_t33 (BitVec.ofNat 32 (176 + 16 * r.val))) a + S16.size a ≤ S8192.size a
  k0_off403_inb : ∀ k0_t33 : Fin k0_t33_loop.trips, ∀ (r : Fin 2), ∀ a, (k0_off403 k0_t33 (BitVec.ofNat 32 (192 + 16 * r.val))) a + S16.size a ≤ S8192.size a
  k0_off404_inb : ∀ k0_t33 : Fin k0_t33_loop.trips, ∀ (r : Fin 2), ∀ a, (k0_off404 k0_t33 (BitVec.ofNat 32 (208 + 16 * r.val))) a + S16.size a ≤ S8192.size a
  k0_off405_inb : ∀ k0_t33 : Fin k0_t33_loop.trips, ∀ (r : Fin 2), ∀ a, (k0_off405 k0_t33 (BitVec.ofNat 32 (224 + 16 * r.val))) a + S16.size a ≤ S8192.size a
  k0_off406_inb : ∀ k0_t33 : Fin k0_t33_loop.trips, ∀ a, (k0_off406 k0_t33) a + S16.size a ≤ S8192.size a
  k0_off407_inb : ∀ (i : grid0.Coords) (k0_t31 : Fin (k0_t31_loop i).trips), ∀ a, (k0_off407 i k0_t31) a + S1x8192.size a ≤ S936x16384.size a
  k0_t34_ok : ∀ i : grid0.Coords, (k0_t34_loop i).OK
  k0_off408_inb : ∀ (i : grid0.Coords) (k0_t34 : Fin (k0_t34_loop i).trips), ∀ a, (k0_off408 i k0_t34) a + S1x100000.size a ≤ S36x100000.size a
  k0_t35_ok : k0_t35_loop.OK
  k0_off409_inb : ∀ k0_t35 : Fin k0_t35_loop.trips, ∀ a, (k0_off409 k0_t35) a + S16.size a ≤ S8192.size a
  k0_off410_inb : ∀ k0_t35 : Fin k0_t35_loop.trips, ∀ (r : Fin 2), ∀ a, (k0_off410 k0_t35 (BitVec.ofNat 32 (16 * r.val))) a + S16.size a ≤ S8192.size a
  k0_off411_inb : ∀ k0_t35 : Fin k0_t35_loop.trips, ∀ (r : Fin 2), ∀ a, (k0_off411 k0_t35 (BitVec.ofNat 32 (16 + 16 * r.val))) a + S16.size a ≤ S8192.size a
  k0_off412_inb : ∀ k0_t35 : Fin k0_t35_loop.trips, ∀ (r : Fin 2), ∀ a, (k0_off412 k0_t35 (BitVec.ofNat 32 (32 + 16 * r.val))) a + S16.size a ≤ S8192.size a
  k0_off413_inb : ∀ k0_t35 : Fin k0_t35_loop.trips, ∀ (r : Fin 2), ∀ a, (k0_off413 k0_t35 (BitVec.ofNat 32 (48 + 16 * r.val))) a + S16.size a ≤ S8192.size a
  k0_off414_inb : ∀ k0_t35 : Fin k0_t35_loop.trips, ∀ (r : Fin 2), ∀ a, (k0_off414 k0_t35 (BitVec.ofNat 32 (64 + 16 * r.val))) a + S16.size a ≤ S8192.size a
  k0_off415_inb : ∀ k0_t35 : Fin k0_t35_loop.trips, ∀ (r : Fin 2), ∀ a, (k0_off415 k0_t35 (BitVec.ofNat 32 (80 + 16 * r.val))) a + S16.size a ≤ S8192.size a
  k0_off416_inb : ∀ k0_t35 : Fin k0_t35_loop.trips, ∀ (r : Fin 2), ∀ a, (k0_off416 k0_t35 (BitVec.ofNat 32 (96 + 16 * r.val))) a + S16.size a ≤ S8192.size a
  k0_off417_inb : ∀ k0_t35 : Fin k0_t35_loop.trips, ∀ (r : Fin 2), ∀ a, (k0_off417 k0_t35 (BitVec.ofNat 32 (112 + 16 * r.val))) a + S16.size a ≤ S8192.size a
  k0_off418_inb : ∀ k0_t35 : Fin k0_t35_loop.trips, ∀ (r : Fin 2), ∀ a, (k0_off418 k0_t35 (BitVec.ofNat 32 (128 + 16 * r.val))) a + S16.size a ≤ S8192.size a
  k0_off419_inb : ∀ k0_t35 : Fin k0_t35_loop.trips, ∀ (r : Fin 2), ∀ a, (k0_off419 k0_t35 (BitVec.ofNat 32 (144 + 16 * r.val))) a + S16.size a ≤ S8192.size a
  k0_off420_inb : ∀ k0_t35 : Fin k0_t35_loop.trips, ∀ (r : Fin 2), ∀ a, (k0_off420 k0_t35 (BitVec.ofNat 32 (160 + 16 * r.val))) a + S16.size a ≤ S8192.size a
  k0_off421_inb : ∀ k0_t35 : Fin k0_t35_loop.trips, ∀ (r : Fin 2), ∀ a, (k0_off421 k0_t35 (BitVec.ofNat 32 (176 + 16 * r.val))) a + S16.size a ≤ S8192.size a
  k0_off422_inb : ∀ k0_t35 : Fin k0_t35_loop.trips, ∀ (r : Fin 2), ∀ a, (k0_off422 k0_t35 (BitVec.ofNat 32 (192 + 16 * r.val))) a + S16.size a ≤ S8192.size a
  k0_off423_inb : ∀ k0_t35 : Fin k0_t35_loop.trips, ∀ (r : Fin 2), ∀ a, (k0_off423 k0_t35 (BitVec.ofNat 32 (208 + 16 * r.val))) a + S16.size a ≤ S8192.size a
  k0_off424_inb : ∀ k0_t35 : Fin k0_t35_loop.trips, ∀ (r : Fin 2), ∀ a, (k0_off424 k0_t35 (BitVec.ofNat 32 (224 + 16 * r.val))) a + S16.size a ≤ S8192.size a
  k0_off425_inb : ∀ k0_t35 : Fin k0_t35_loop.trips, ∀ a, (k0_off425 k0_t35) a + S16.size a ≤ S8192.size a
  k0_off426_inb : ∀ (i : grid0.Coords) (k0_t34 : Fin (k0_t34_loop i).trips), ∀ a, (k0_off426 i k0_t34) a + S1x8192.size a ≤ S936x16384.size a
  k0_t36_ok : k0_t36_loop.OK
  k0_off427_inb : ∀ k0_t36 : Fin k0_t36_loop.trips, ∀ a, (k0_off427 k0_t36) a + S16.size a ≤ S8192.size a
  k0_off428_inb : ∀ k0_t36 : Fin k0_t36_loop.trips, ∀ (r : Fin 2), ∀ a, (k0_off428 k0_t36 (BitVec.ofNat 32 (16 * r.val))) a + S16.size a ≤ S8192.size a
  k0_off429_inb : ∀ k0_t36 : Fin k0_t36_loop.trips, ∀ (r : Fin 2), ∀ a, (k0_off429 k0_t36 (BitVec.ofNat 32 (16 + 16 * r.val))) a + S16.size a ≤ S8192.size a
  k0_off430_inb : ∀ k0_t36 : Fin k0_t36_loop.trips, ∀ (r : Fin 2), ∀ a, (k0_off430 k0_t36 (BitVec.ofNat 32 (32 + 16 * r.val))) a + S16.size a ≤ S8192.size a
  k0_off431_inb : ∀ k0_t36 : Fin k0_t36_loop.trips, ∀ (r : Fin 2), ∀ a, (k0_off431 k0_t36 (BitVec.ofNat 32 (48 + 16 * r.val))) a + S16.size a ≤ S8192.size a
  k0_off432_inb : ∀ k0_t36 : Fin k0_t36_loop.trips, ∀ (r : Fin 2), ∀ a, (k0_off432 k0_t36 (BitVec.ofNat 32 (64 + 16 * r.val))) a + S16.size a ≤ S8192.size a
  k0_off433_inb : ∀ k0_t36 : Fin k0_t36_loop.trips, ∀ (r : Fin 2), ∀ a, (k0_off433 k0_t36 (BitVec.ofNat 32 (80 + 16 * r.val))) a + S16.size a ≤ S8192.size a
  k0_off434_inb : ∀ k0_t36 : Fin k0_t36_loop.trips, ∀ (r : Fin 2), ∀ a, (k0_off434 k0_t36 (BitVec.ofNat 32 (96 + 16 * r.val))) a + S16.size a ≤ S8192.size a
  k0_off435_inb : ∀ k0_t36 : Fin k0_t36_loop.trips, ∀ (r : Fin 2), ∀ a, (k0_off435 k0_t36 (BitVec.ofNat 32 (112 + 16 * r.val))) a + S16.size a ≤ S8192.size a
  k0_off436_inb : ∀ k0_t36 : Fin k0_t36_loop.trips, ∀ (r : Fin 2), ∀ a, (k0_off436 k0_t36 (BitVec.ofNat 32 (128 + 16 * r.val))) a + S16.size a ≤ S8192.size a
  k0_off437_inb : ∀ k0_t36 : Fin k0_t36_loop.trips, ∀ (r : Fin 2), ∀ a, (k0_off437 k0_t36 (BitVec.ofNat 32 (144 + 16 * r.val))) a + S16.size a ≤ S8192.size a
  k0_off438_inb : ∀ k0_t36 : Fin k0_t36_loop.trips, ∀ (r : Fin 2), ∀ a, (k0_off438 k0_t36 (BitVec.ofNat 32 (160 + 16 * r.val))) a + S16.size a ≤ S8192.size a
  k0_off439_inb : ∀ k0_t36 : Fin k0_t36_loop.trips, ∀ (r : Fin 2), ∀ a, (k0_off439 k0_t36 (BitVec.ofNat 32 (176 + 16 * r.val))) a + S16.size a ≤ S8192.size a
  k0_off440_inb : ∀ k0_t36 : Fin k0_t36_loop.trips, ∀ (r : Fin 2), ∀ a, (k0_off440 k0_t36 (BitVec.ofNat 32 (192 + 16 * r.val))) a + S16.size a ≤ S8192.size a
  k0_off441_inb : ∀ k0_t36 : Fin k0_t36_loop.trips, ∀ (r : Fin 2), ∀ a, (k0_off441 k0_t36 (BitVec.ofNat 32 (208 + 16 * r.val))) a + S16.size a ≤ S8192.size a
  k0_off442_inb : ∀ k0_t36 : Fin k0_t36_loop.trips, ∀ (r : Fin 2), ∀ a, (k0_off442 k0_t36 (BitVec.ofNat 32 (224 + 16 * r.val))) a + S16.size a ≤ S8192.size a
  k0_off443_inb : ∀ k0_t36 : Fin k0_t36_loop.trips, ∀ a, (k0_off443 k0_t36) a + S16.size a ≤ S8192.size a
  k0_off444_inb : ∀ (i : grid0.Coords) (k0_t34 : Fin (k0_t34_loop i).trips), ∀ a, (k0_off444 i k0_t34) a + S1x8192.size a ≤ S936x16384.size a
  k0_t37_ok : ∀ i : grid0.Coords, (k0_t37_loop i).OK
  k0_off445_inb : ∀ (i : grid0.Coords) (k0_t37 : Fin (k0_t37_loop i).trips), ∀ a, (k0_off445 i k0_t37) a + S1x100000.size a ≤ S36x100000.size a
  k0_t38_ok : k0_t38_loop.OK
  k0_off446_inb : ∀ k0_t38 : Fin k0_t38_loop.trips, ∀ a, (k0_off446 k0_t38) a + S16.size a ≤ S8192.size a
  k0_off447_inb : ∀ k0_t38 : Fin k0_t38_loop.trips, ∀ (r : Fin 2), ∀ a, (k0_off447 k0_t38 (BitVec.ofNat 32 (16 * r.val))) a + S16.size a ≤ S8192.size a
  k0_off448_inb : ∀ k0_t38 : Fin k0_t38_loop.trips, ∀ (r : Fin 2), ∀ a, (k0_off448 k0_t38 (BitVec.ofNat 32 (16 + 16 * r.val))) a + S16.size a ≤ S8192.size a
  k0_off449_inb : ∀ k0_t38 : Fin k0_t38_loop.trips, ∀ (r : Fin 2), ∀ a, (k0_off449 k0_t38 (BitVec.ofNat 32 (32 + 16 * r.val))) a + S16.size a ≤ S8192.size a
  k0_off450_inb : ∀ k0_t38 : Fin k0_t38_loop.trips, ∀ (r : Fin 2), ∀ a, (k0_off450 k0_t38 (BitVec.ofNat 32 (48 + 16 * r.val))) a + S16.size a ≤ S8192.size a
  k0_off451_inb : ∀ k0_t38 : Fin k0_t38_loop.trips, ∀ (r : Fin 2), ∀ a, (k0_off451 k0_t38 (BitVec.ofNat 32 (64 + 16 * r.val))) a + S16.size a ≤ S8192.size a
  k0_off452_inb : ∀ k0_t38 : Fin k0_t38_loop.trips, ∀ (r : Fin 2), ∀ a, (k0_off452 k0_t38 (BitVec.ofNat 32 (80 + 16 * r.val))) a + S16.size a ≤ S8192.size a
  k0_off453_inb : ∀ k0_t38 : Fin k0_t38_loop.trips, ∀ (r : Fin 2), ∀ a, (k0_off453 k0_t38 (BitVec.ofNat 32 (96 + 16 * r.val))) a + S16.size a ≤ S8192.size a
  k0_off454_inb : ∀ k0_t38 : Fin k0_t38_loop.trips, ∀ (r : Fin 2), ∀ a, (k0_off454 k0_t38 (BitVec.ofNat 32 (112 + 16 * r.val))) a + S16.size a ≤ S8192.size a
  k0_off455_inb : ∀ k0_t38 : Fin k0_t38_loop.trips, ∀ (r : Fin 2), ∀ a, (k0_off455 k0_t38 (BitVec.ofNat 32 (128 + 16 * r.val))) a + S16.size a ≤ S8192.size a
  k0_off456_inb : ∀ k0_t38 : Fin k0_t38_loop.trips, ∀ (r : Fin 2), ∀ a, (k0_off456 k0_t38 (BitVec.ofNat 32 (144 + 16 * r.val))) a + S16.size a ≤ S8192.size a
  k0_off457_inb : ∀ k0_t38 : Fin k0_t38_loop.trips, ∀ (r : Fin 2), ∀ a, (k0_off457 k0_t38 (BitVec.ofNat 32 (160 + 16 * r.val))) a + S16.size a ≤ S8192.size a
  k0_off458_inb : ∀ k0_t38 : Fin k0_t38_loop.trips, ∀ (r : Fin 2), ∀ a, (k0_off458 k0_t38 (BitVec.ofNat 32 (176 + 16 * r.val))) a + S16.size a ≤ S8192.size a
  k0_off459_inb : ∀ k0_t38 : Fin k0_t38_loop.trips, ∀ (r : Fin 2), ∀ a, (k0_off459 k0_t38 (BitVec.ofNat 32 (192 + 16 * r.val))) a + S16.size a ≤ S8192.size a
  k0_off460_inb : ∀ k0_t38 : Fin k0_t38_loop.trips, ∀ (r : Fin 2), ∀ a, (k0_off460 k0_t38 (BitVec.ofNat 32 (208 + 16 * r.val))) a + S16.size a ≤ S8192.size a
  k0_off461_inb : ∀ k0_t38 : Fin k0_t38_loop.trips, ∀ (r : Fin 2), ∀ a, (k0_off461 k0_t38 (BitVec.ofNat 32 (224 + 16 * r.val))) a + S16.size a ≤ S8192.size a
  k0_off462_inb : ∀ k0_t38 : Fin k0_t38_loop.trips, ∀ a, (k0_off462 k0_t38) a + S16.size a ≤ S8192.size a
  k0_off463_inb : ∀ (i : grid0.Coords) (k0_t37 : Fin (k0_t37_loop i).trips), ∀ a, (k0_off463 i k0_t37) a + S1x8192.size a ≤ S936x16384.size a
  k0_t39_ok : k0_t39_loop.OK
  k0_off464_inb : ∀ k0_t39 : Fin k0_t39_loop.trips, ∀ a, (k0_off464 k0_t39) a + S16.size a ≤ S8192.size a
  k0_off465_inb : ∀ k0_t39 : Fin k0_t39_loop.trips, ∀ (r : Fin 2), ∀ a, (k0_off465 k0_t39 (BitVec.ofNat 32 (16 * r.val))) a + S16.size a ≤ S8192.size a
  k0_off466_inb : ∀ k0_t39 : Fin k0_t39_loop.trips, ∀ (r : Fin 2), ∀ a, (k0_off466 k0_t39 (BitVec.ofNat 32 (16 + 16 * r.val))) a + S16.size a ≤ S8192.size a
  k0_off467_inb : ∀ k0_t39 : Fin k0_t39_loop.trips, ∀ (r : Fin 2), ∀ a, (k0_off467 k0_t39 (BitVec.ofNat 32 (32 + 16 * r.val))) a + S16.size a ≤ S8192.size a
  k0_off468_inb : ∀ k0_t39 : Fin k0_t39_loop.trips, ∀ (r : Fin 2), ∀ a, (k0_off468 k0_t39 (BitVec.ofNat 32 (48 + 16 * r.val))) a + S16.size a ≤ S8192.size a
  k0_off469_inb : ∀ k0_t39 : Fin k0_t39_loop.trips, ∀ (r : Fin 2), ∀ a, (k0_off469 k0_t39 (BitVec.ofNat 32 (64 + 16 * r.val))) a + S16.size a ≤ S8192.size a
  k0_off470_inb : ∀ k0_t39 : Fin k0_t39_loop.trips, ∀ (r : Fin 2), ∀ a, (k0_off470 k0_t39 (BitVec.ofNat 32 (80 + 16 * r.val))) a + S16.size a ≤ S8192.size a
  k0_off471_inb : ∀ k0_t39 : Fin k0_t39_loop.trips, ∀ (r : Fin 2), ∀ a, (k0_off471 k0_t39 (BitVec.ofNat 32 (96 + 16 * r.val))) a + S16.size a ≤ S8192.size a
  k0_off472_inb : ∀ k0_t39 : Fin k0_t39_loop.trips, ∀ (r : Fin 2), ∀ a, (k0_off472 k0_t39 (BitVec.ofNat 32 (112 + 16 * r.val))) a + S16.size a ≤ S8192.size a
  k0_off473_inb : ∀ k0_t39 : Fin k0_t39_loop.trips, ∀ (r : Fin 2), ∀ a, (k0_off473 k0_t39 (BitVec.ofNat 32 (128 + 16 * r.val))) a + S16.size a ≤ S8192.size a
  k0_off474_inb : ∀ k0_t39 : Fin k0_t39_loop.trips, ∀ (r : Fin 2), ∀ a, (k0_off474 k0_t39 (BitVec.ofNat 32 (144 + 16 * r.val))) a + S16.size a ≤ S8192.size a
  k0_off475_inb : ∀ k0_t39 : Fin k0_t39_loop.trips, ∀ (r : Fin 2), ∀ a, (k0_off475 k0_t39 (BitVec.ofNat 32 (160 + 16 * r.val))) a + S16.size a ≤ S8192.size a
  k0_off476_inb : ∀ k0_t39 : Fin k0_t39_loop.trips, ∀ (r : Fin 2), ∀ a, (k0_off476 k0_t39 (BitVec.ofNat 32 (176 + 16 * r.val))) a + S16.size a ≤ S8192.size a
  k0_off477_inb : ∀ k0_t39 : Fin k0_t39_loop.trips, ∀ (r : Fin 2), ∀ a, (k0_off477 k0_t39 (BitVec.ofNat 32 (192 + 16 * r.val))) a + S16.size a ≤ S8192.size a
  k0_off478_inb : ∀ k0_t39 : Fin k0_t39_loop.trips, ∀ (r : Fin 2), ∀ a, (k0_off478 k0_t39 (BitVec.ofNat 32 (208 + 16 * r.val))) a + S16.size a ≤ S8192.size a
  k0_off479_inb : ∀ k0_t39 : Fin k0_t39_loop.trips, ∀ (r : Fin 2), ∀ a, (k0_off479 k0_t39 (BitVec.ofNat 32 (224 + 16 * r.val))) a + S16.size a ≤ S8192.size a
  k0_off480_inb : ∀ k0_t39 : Fin k0_t39_loop.trips, ∀ a, (k0_off480 k0_t39) a + S16.size a ≤ S8192.size a
  k0_off481_inb : ∀ (i : grid0.Coords) (k0_t37 : Fin (k0_t37_loop i).trips), ∀ a, (k0_off481 i k0_t37) a + S1x8192.size a ≤ S936x16384.size a
  k0_t40_ok : ∀ i : grid0.Coords, (k0_t40_loop i).OK
  k0_off482_inb : ∀ (i : grid0.Coords) (k0_t40 : Fin (k0_t40_loop i).trips), ∀ a, (k0_off482 i k0_t40) a + S1x100000.size a ≤ S36x100000.size a
  k0_t41_ok : k0_t41_loop.OK
  k0_off483_inb : ∀ k0_t41 : Fin k0_t41_loop.trips, ∀ a, (k0_off483 k0_t41) a + S16.size a ≤ S8192.size a
  k0_off484_inb : ∀ k0_t41 : Fin k0_t41_loop.trips, ∀ (r : Fin 2), ∀ a, (k0_off484 k0_t41 (BitVec.ofNat 32 (16 * r.val))) a + S16.size a ≤ S8192.size a
  k0_off485_inb : ∀ k0_t41 : Fin k0_t41_loop.trips, ∀ (r : Fin 2), ∀ a, (k0_off485 k0_t41 (BitVec.ofNat 32 (16 + 16 * r.val))) a + S16.size a ≤ S8192.size a
  k0_off486_inb : ∀ k0_t41 : Fin k0_t41_loop.trips, ∀ (r : Fin 2), ∀ a, (k0_off486 k0_t41 (BitVec.ofNat 32 (32 + 16 * r.val))) a + S16.size a ≤ S8192.size a
  k0_off487_inb : ∀ k0_t41 : Fin k0_t41_loop.trips, ∀ (r : Fin 2), ∀ a, (k0_off487 k0_t41 (BitVec.ofNat 32 (48 + 16 * r.val))) a + S16.size a ≤ S8192.size a
  k0_off488_inb : ∀ k0_t41 : Fin k0_t41_loop.trips, ∀ (r : Fin 2), ∀ a, (k0_off488 k0_t41 (BitVec.ofNat 32 (64 + 16 * r.val))) a + S16.size a ≤ S8192.size a
  k0_off489_inb : ∀ k0_t41 : Fin k0_t41_loop.trips, ∀ (r : Fin 2), ∀ a, (k0_off489 k0_t41 (BitVec.ofNat 32 (80 + 16 * r.val))) a + S16.size a ≤ S8192.size a
  k0_off490_inb : ∀ k0_t41 : Fin k0_t41_loop.trips, ∀ (r : Fin 2), ∀ a, (k0_off490 k0_t41 (BitVec.ofNat 32 (96 + 16 * r.val))) a + S16.size a ≤ S8192.size a
  k0_off491_inb : ∀ k0_t41 : Fin k0_t41_loop.trips, ∀ (r : Fin 2), ∀ a, (k0_off491 k0_t41 (BitVec.ofNat 32 (112 + 16 * r.val))) a + S16.size a ≤ S8192.size a
  k0_off492_inb : ∀ k0_t41 : Fin k0_t41_loop.trips, ∀ (r : Fin 2), ∀ a, (k0_off492 k0_t41 (BitVec.ofNat 32 (128 + 16 * r.val))) a + S16.size a ≤ S8192.size a
  k0_off493_inb : ∀ k0_t41 : Fin k0_t41_loop.trips, ∀ (r : Fin 2), ∀ a, (k0_off493 k0_t41 (BitVec.ofNat 32 (144 + 16 * r.val))) a + S16.size a ≤ S8192.size a
  k0_off494_inb : ∀ k0_t41 : Fin k0_t41_loop.trips, ∀ (r : Fin 2), ∀ a, (k0_off494 k0_t41 (BitVec.ofNat 32 (160 + 16 * r.val))) a + S16.size a ≤ S8192.size a
  k0_off495_inb : ∀ k0_t41 : Fin k0_t41_loop.trips, ∀ (r : Fin 2), ∀ a, (k0_off495 k0_t41 (BitVec.ofNat 32 (176 + 16 * r.val))) a + S16.size a ≤ S8192.size a
  k0_off496_inb : ∀ k0_t41 : Fin k0_t41_loop.trips, ∀ (r : Fin 2), ∀ a, (k0_off496 k0_t41 (BitVec.ofNat 32 (192 + 16 * r.val))) a + S16.size a ≤ S8192.size a
  k0_off497_inb : ∀ k0_t41 : Fin k0_t41_loop.trips, ∀ (r : Fin 2), ∀ a, (k0_off497 k0_t41 (BitVec.ofNat 32 (208 + 16 * r.val))) a + S16.size a ≤ S8192.size a
  k0_off498_inb : ∀ k0_t41 : Fin k0_t41_loop.trips, ∀ (r : Fin 2), ∀ a, (k0_off498 k0_t41 (BitVec.ofNat 32 (224 + 16 * r.val))) a + S16.size a ≤ S8192.size a
  k0_off499_inb : ∀ k0_t41 : Fin k0_t41_loop.trips, ∀ a, (k0_off499 k0_t41) a + S16.size a ≤ S8192.size a
  k0_off500_inb : ∀ (i : grid0.Coords) (k0_t40 : Fin (k0_t40_loop i).trips), ∀ a, (k0_off500 i k0_t40) a + S1x8192.size a ≤ S936x16384.size a
  k0_t42_ok : k0_t42_loop.OK
  k0_off501_inb : ∀ k0_t42 : Fin k0_t42_loop.trips, ∀ a, (k0_off501 k0_t42) a + S16.size a ≤ S8192.size a
  k0_off502_inb : ∀ k0_t42 : Fin k0_t42_loop.trips, ∀ (r : Fin 2), ∀ a, (k0_off502 k0_t42 (BitVec.ofNat 32 (16 * r.val))) a + S16.size a ≤ S8192.size a
  k0_off503_inb : ∀ k0_t42 : Fin k0_t42_loop.trips, ∀ (r : Fin 2), ∀ a, (k0_off503 k0_t42 (BitVec.ofNat 32 (16 + 16 * r.val))) a + S16.size a ≤ S8192.size a
  k0_off504_inb : ∀ k0_t42 : Fin k0_t42_loop.trips, ∀ (r : Fin 2), ∀ a, (k0_off504 k0_t42 (BitVec.ofNat 32 (32 + 16 * r.val))) a + S16.size a ≤ S8192.size a
  k0_off505_inb : ∀ k0_t42 : Fin k0_t42_loop.trips, ∀ (r : Fin 2), ∀ a, (k0_off505 k0_t42 (BitVec.ofNat 32 (48 + 16 * r.val))) a + S16.size a ≤ S8192.size a
  k0_off506_inb : ∀ k0_t42 : Fin k0_t42_loop.trips, ∀ (r : Fin 2), ∀ a, (k0_off506 k0_t42 (BitVec.ofNat 32 (64 + 16 * r.val))) a + S16.size a ≤ S8192.size a
  k0_off507_inb : ∀ k0_t42 : Fin k0_t42_loop.trips, ∀ (r : Fin 2), ∀ a, (k0_off507 k0_t42 (BitVec.ofNat 32 (80 + 16 * r.val))) a + S16.size a ≤ S8192.size a
  k0_off508_inb : ∀ k0_t42 : Fin k0_t42_loop.trips, ∀ (r : Fin 2), ∀ a, (k0_off508 k0_t42 (BitVec.ofNat 32 (96 + 16 * r.val))) a + S16.size a ≤ S8192.size a
  k0_off509_inb : ∀ k0_t42 : Fin k0_t42_loop.trips, ∀ (r : Fin 2), ∀ a, (k0_off509 k0_t42 (BitVec.ofNat 32 (112 + 16 * r.val))) a + S16.size a ≤ S8192.size a
  k0_off510_inb : ∀ k0_t42 : Fin k0_t42_loop.trips, ∀ (r : Fin 2), ∀ a, (k0_off510 k0_t42 (BitVec.ofNat 32 (128 + 16 * r.val))) a + S16.size a ≤ S8192.size a
  k0_off511_inb : ∀ k0_t42 : Fin k0_t42_loop.trips, ∀ (r : Fin 2), ∀ a, (k0_off511 k0_t42 (BitVec.ofNat 32 (144 + 16 * r.val))) a + S16.size a ≤ S8192.size a
  k0_off512_inb : ∀ k0_t42 : Fin k0_t42_loop.trips, ∀ (r : Fin 2), ∀ a, (k0_off512 k0_t42 (BitVec.ofNat 32 (160 + 16 * r.val))) a + S16.size a ≤ S8192.size a
  k0_off513_inb : ∀ k0_t42 : Fin k0_t42_loop.trips, ∀ (r : Fin 2), ∀ a, (k0_off513 k0_t42 (BitVec.ofNat 32 (176 + 16 * r.val))) a + S16.size a ≤ S8192.size a
  k0_off514_inb : ∀ k0_t42 : Fin k0_t42_loop.trips, ∀ (r : Fin 2), ∀ a, (k0_off514 k0_t42 (BitVec.ofNat 32 (192 + 16 * r.val))) a + S16.size a ≤ S8192.size a
  k0_off515_inb : ∀ k0_t42 : Fin k0_t42_loop.trips, ∀ (r : Fin 2), ∀ a, (k0_off515 k0_t42 (BitVec.ofNat 32 (208 + 16 * r.val))) a + S16.size a ≤ S8192.size a
  k0_off516_inb : ∀ k0_t42 : Fin k0_t42_loop.trips, ∀ (r : Fin 2), ∀ a, (k0_off516 k0_t42 (BitVec.ofNat 32 (224 + 16 * r.val))) a + S16.size a ≤ S8192.size a
  k0_off517_inb : ∀ k0_t42 : Fin k0_t42_loop.trips, ∀ a, (k0_off517 k0_t42) a + S16.size a ≤ S8192.size a
  k0_off518_inb : ∀ (i : grid0.Coords) (k0_t40 : Fin (k0_t40_loop i).trips), ∀ a, (k0_off518 i k0_t40) a + S1x8192.size a ≤ S936x16384.size a
  k0_t43_ok : ∀ i : grid0.Coords, (k0_t43_loop i).OK
  k0_off519_inb : ∀ (i : grid0.Coords) (k0_t43 : Fin (k0_t43_loop i).trips), ∀ a, (k0_off519 i k0_t43) a + S1x100000.size a ≤ S36x100000.size a
  k0_t44_ok : k0_t44_loop.OK
  k0_off520_inb : ∀ k0_t44 : Fin k0_t44_loop.trips, ∀ a, (k0_off520 k0_t44) a + S16.size a ≤ S8192.size a
  k0_off521_inb : ∀ k0_t44 : Fin k0_t44_loop.trips, ∀ (r : Fin 2), ∀ a, (k0_off521 k0_t44 (BitVec.ofNat 32 (16 * r.val))) a + S16.size a ≤ S8192.size a
  k0_off522_inb : ∀ k0_t44 : Fin k0_t44_loop.trips, ∀ (r : Fin 2), ∀ a, (k0_off522 k0_t44 (BitVec.ofNat 32 (16 + 16 * r.val))) a + S16.size a ≤ S8192.size a
  k0_off523_inb : ∀ k0_t44 : Fin k0_t44_loop.trips, ∀ (r : Fin 2), ∀ a, (k0_off523 k0_t44 (BitVec.ofNat 32 (32 + 16 * r.val))) a + S16.size a ≤ S8192.size a
  k0_off524_inb : ∀ k0_t44 : Fin k0_t44_loop.trips, ∀ (r : Fin 2), ∀ a, (k0_off524 k0_t44 (BitVec.ofNat 32 (48 + 16 * r.val))) a + S16.size a ≤ S8192.size a
  k0_off525_inb : ∀ k0_t44 : Fin k0_t44_loop.trips, ∀ (r : Fin 2), ∀ a, (k0_off525 k0_t44 (BitVec.ofNat 32 (64 + 16 * r.val))) a + S16.size a ≤ S8192.size a
  k0_off526_inb : ∀ k0_t44 : Fin k0_t44_loop.trips, ∀ (r : Fin 2), ∀ a, (k0_off526 k0_t44 (BitVec.ofNat 32 (80 + 16 * r.val))) a + S16.size a ≤ S8192.size a
  k0_off527_inb : ∀ k0_t44 : Fin k0_t44_loop.trips, ∀ (r : Fin 2), ∀ a, (k0_off527 k0_t44 (BitVec.ofNat 32 (96 + 16 * r.val))) a + S16.size a ≤ S8192.size a
  k0_off528_inb : ∀ k0_t44 : Fin k0_t44_loop.trips, ∀ (r : Fin 2), ∀ a, (k0_off528 k0_t44 (BitVec.ofNat 32 (112 + 16 * r.val))) a + S16.size a ≤ S8192.size a
  k0_off529_inb : ∀ k0_t44 : Fin k0_t44_loop.trips, ∀ (r : Fin 2), ∀ a, (k0_off529 k0_t44 (BitVec.ofNat 32 (128 + 16 * r.val))) a + S16.size a ≤ S8192.size a
  k0_off530_inb : ∀ k0_t44 : Fin k0_t44_loop.trips, ∀ (r : Fin 2), ∀ a, (k0_off530 k0_t44 (BitVec.ofNat 32 (144 + 16 * r.val))) a + S16.size a ≤ S8192.size a
  k0_off531_inb : ∀ k0_t44 : Fin k0_t44_loop.trips, ∀ (r : Fin 2), ∀ a, (k0_off531 k0_t44 (BitVec.ofNat 32 (160 + 16 * r.val))) a + S16.size a ≤ S8192.size a
  k0_off532_inb : ∀ k0_t44 : Fin k0_t44_loop.trips, ∀ (r : Fin 2), ∀ a, (k0_off532 k0_t44 (BitVec.ofNat 32 (176 + 16 * r.val))) a + S16.size a ≤ S8192.size a
  k0_off533_inb : ∀ k0_t44 : Fin k0_t44_loop.trips, ∀ (r : Fin 2), ∀ a, (k0_off533 k0_t44 (BitVec.ofNat 32 (192 + 16 * r.val))) a + S16.size a ≤ S8192.size a
  k0_off534_inb : ∀ k0_t44 : Fin k0_t44_loop.trips, ∀ (r : Fin 2), ∀ a, (k0_off534 k0_t44 (BitVec.ofNat 32 (208 + 16 * r.val))) a + S16.size a ≤ S8192.size a
  k0_off535_inb : ∀ k0_t44 : Fin k0_t44_loop.trips, ∀ (r : Fin 2), ∀ a, (k0_off535 k0_t44 (BitVec.ofNat 32 (224 + 16 * r.val))) a + S16.size a ≤ S8192.size a
  k0_off536_inb : ∀ k0_t44 : Fin k0_t44_loop.trips, ∀ a, (k0_off536 k0_t44) a + S16.size a ≤ S8192.size a
  k0_off537_inb : ∀ (i : grid0.Coords) (k0_t43 : Fin (k0_t43_loop i).trips), ∀ a, (k0_off537 i k0_t43) a + S1x8192.size a ≤ S936x16384.size a
  k0_t45_ok : k0_t45_loop.OK
  k0_off538_inb : ∀ k0_t45 : Fin k0_t45_loop.trips, ∀ a, (k0_off538 k0_t45) a + S16.size a ≤ S8192.size a
  k0_off539_inb : ∀ k0_t45 : Fin k0_t45_loop.trips, ∀ (r : Fin 2), ∀ a, (k0_off539 k0_t45 (BitVec.ofNat 32 (16 * r.val))) a + S16.size a ≤ S8192.size a
  k0_off540_inb : ∀ k0_t45 : Fin k0_t45_loop.trips, ∀ (r : Fin 2), ∀ a, (k0_off540 k0_t45 (BitVec.ofNat 32 (16 + 16 * r.val))) a + S16.size a ≤ S8192.size a
  k0_off541_inb : ∀ k0_t45 : Fin k0_t45_loop.trips, ∀ (r : Fin 2), ∀ a, (k0_off541 k0_t45 (BitVec.ofNat 32 (32 + 16 * r.val))) a + S16.size a ≤ S8192.size a
  k0_off542_inb : ∀ k0_t45 : Fin k0_t45_loop.trips, ∀ (r : Fin 2), ∀ a, (k0_off542 k0_t45 (BitVec.ofNat 32 (48 + 16 * r.val))) a + S16.size a ≤ S8192.size a
  k0_off543_inb : ∀ k0_t45 : Fin k0_t45_loop.trips, ∀ (r : Fin 2), ∀ a, (k0_off543 k0_t45 (BitVec.ofNat 32 (64 + 16 * r.val))) a + S16.size a ≤ S8192.size a
  k0_off544_inb : ∀ k0_t45 : Fin k0_t45_loop.trips, ∀ (r : Fin 2), ∀ a, (k0_off544 k0_t45 (BitVec.ofNat 32 (80 + 16 * r.val))) a + S16.size a ≤ S8192.size a
  k0_off545_inb : ∀ k0_t45 : Fin k0_t45_loop.trips, ∀ (r : Fin 2), ∀ a, (k0_off545 k0_t45 (BitVec.ofNat 32 (96 + 16 * r.val))) a + S16.size a ≤ S8192.size a
  k0_off546_inb : ∀ k0_t45 : Fin k0_t45_loop.trips, ∀ (r : Fin 2), ∀ a, (k0_off546 k0_t45 (BitVec.ofNat 32 (112 + 16 * r.val))) a + S16.size a ≤ S8192.size a
  k0_off547_inb : ∀ k0_t45 : Fin k0_t45_loop.trips, ∀ (r : Fin 2), ∀ a, (k0_off547 k0_t45 (BitVec.ofNat 32 (128 + 16 * r.val))) a + S16.size a ≤ S8192.size a
  k0_off548_inb : ∀ k0_t45 : Fin k0_t45_loop.trips, ∀ (r : Fin 2), ∀ a, (k0_off548 k0_t45 (BitVec.ofNat 32 (144 + 16 * r.val))) a + S16.size a ≤ S8192.size a
  k0_off549_inb : ∀ k0_t45 : Fin k0_t45_loop.trips, ∀ (r : Fin 2), ∀ a, (k0_off549 k0_t45 (BitVec.ofNat 32 (160 + 16 * r.val))) a + S16.size a ≤ S8192.size a
  k0_off550_inb : ∀ k0_t45 : Fin k0_t45_loop.trips, ∀ (r : Fin 2), ∀ a, (k0_off550 k0_t45 (BitVec.ofNat 32 (176 + 16 * r.val))) a + S16.size a ≤ S8192.size a
  k0_off551_inb : ∀ k0_t45 : Fin k0_t45_loop.trips, ∀ (r : Fin 2), ∀ a, (k0_off551 k0_t45 (BitVec.ofNat 32 (192 + 16 * r.val))) a + S16.size a ≤ S8192.size a
  k0_off552_inb : ∀ k0_t45 : Fin k0_t45_loop.trips, ∀ (r : Fin 2), ∀ a, (k0_off552 k0_t45 (BitVec.ofNat 32 (208 + 16 * r.val))) a + S16.size a ≤ S8192.size a
  k0_off553_inb : ∀ k0_t45 : Fin k0_t45_loop.trips, ∀ (r : Fin 2), ∀ a, (k0_off553 k0_t45 (BitVec.ofNat 32 (224 + 16 * r.val))) a + S16.size a ≤ S8192.size a
  k0_off554_inb : ∀ k0_t45 : Fin k0_t45_loop.trips, ∀ a, (k0_off554 k0_t45) a + S16.size a ≤ S8192.size a
  k0_off555_inb : ∀ (i : grid0.Coords) (k0_t43 : Fin (k0_t43_loop i).trips), ∀ a, (k0_off555 i k0_t43) a + S1x8192.size a ≤ S936x16384.size a
  k0_t46_ok : ∀ i : grid0.Coords, (k0_t46_loop i).OK
  k0_off556_inb : ∀ (i : grid0.Coords) (k0_t46 : Fin (k0_t46_loop i).trips), ∀ a, (k0_off556 i k0_t46) a + S1x100000.size a ≤ S36x100000.size a
  k0_t47_ok : k0_t47_loop.OK
  k0_off557_inb : ∀ k0_t47 : Fin k0_t47_loop.trips, ∀ a, (k0_off557 k0_t47) a + S16.size a ≤ S8192.size a
  k0_off558_inb : ∀ k0_t47 : Fin k0_t47_loop.trips, ∀ (r : Fin 2), ∀ a, (k0_off558 k0_t47 (BitVec.ofNat 32 (16 * r.val))) a + S16.size a ≤ S8192.size a
  k0_off559_inb : ∀ k0_t47 : Fin k0_t47_loop.trips, ∀ (r : Fin 2), ∀ a, (k0_off559 k0_t47 (BitVec.ofNat 32 (16 + 16 * r.val))) a + S16.size a ≤ S8192.size a
  k0_off560_inb : ∀ k0_t47 : Fin k0_t47_loop.trips, ∀ (r : Fin 2), ∀ a, (k0_off560 k0_t47 (BitVec.ofNat 32 (32 + 16 * r.val))) a + S16.size a ≤ S8192.size a
  k0_off561_inb : ∀ k0_t47 : Fin k0_t47_loop.trips, ∀ (r : Fin 2), ∀ a, (k0_off561 k0_t47 (BitVec.ofNat 32 (48 + 16 * r.val))) a + S16.size a ≤ S8192.size a
  k0_off562_inb : ∀ k0_t47 : Fin k0_t47_loop.trips, ∀ (r : Fin 2), ∀ a, (k0_off562 k0_t47 (BitVec.ofNat 32 (64 + 16 * r.val))) a + S16.size a ≤ S8192.size a
  k0_off563_inb : ∀ k0_t47 : Fin k0_t47_loop.trips, ∀ (r : Fin 2), ∀ a, (k0_off563 k0_t47 (BitVec.ofNat 32 (80 + 16 * r.val))) a + S16.size a ≤ S8192.size a
  k0_off564_inb : ∀ k0_t47 : Fin k0_t47_loop.trips, ∀ (r : Fin 2), ∀ a, (k0_off564 k0_t47 (BitVec.ofNat 32 (96 + 16 * r.val))) a + S16.size a ≤ S8192.size a
  k0_off565_inb : ∀ k0_t47 : Fin k0_t47_loop.trips, ∀ (r : Fin 2), ∀ a, (k0_off565 k0_t47 (BitVec.ofNat 32 (112 + 16 * r.val))) a + S16.size a ≤ S8192.size a
  k0_off566_inb : ∀ k0_t47 : Fin k0_t47_loop.trips, ∀ (r : Fin 2), ∀ a, (k0_off566 k0_t47 (BitVec.ofNat 32 (128 + 16 * r.val))) a + S16.size a ≤ S8192.size a
  k0_off567_inb : ∀ k0_t47 : Fin k0_t47_loop.trips, ∀ (r : Fin 2), ∀ a, (k0_off567 k0_t47 (BitVec.ofNat 32 (144 + 16 * r.val))) a + S16.size a ≤ S8192.size a
  k0_off568_inb : ∀ k0_t47 : Fin k0_t47_loop.trips, ∀ (r : Fin 2), ∀ a, (k0_off568 k0_t47 (BitVec.ofNat 32 (160 + 16 * r.val))) a + S16.size a ≤ S8192.size a
  k0_off569_inb : ∀ k0_t47 : Fin k0_t47_loop.trips, ∀ (r : Fin 2), ∀ a, (k0_off569 k0_t47 (BitVec.ofNat 32 (176 + 16 * r.val))) a + S16.size a ≤ S8192.size a
  k0_off570_inb : ∀ k0_t47 : Fin k0_t47_loop.trips, ∀ (r : Fin 2), ∀ a, (k0_off570 k0_t47 (BitVec.ofNat 32 (192 + 16 * r.val))) a + S16.size a ≤ S8192.size a
  k0_off571_inb : ∀ k0_t47 : Fin k0_t47_loop.trips, ∀ (r : Fin 2), ∀ a, (k0_off571 k0_t47 (BitVec.ofNat 32 (208 + 16 * r.val))) a + S16.size a ≤ S8192.size a
  k0_off572_inb : ∀ k0_t47 : Fin k0_t47_loop.trips, ∀ (r : Fin 2), ∀ a, (k0_off572 k0_t47 (BitVec.ofNat 32 (224 + 16 * r.val))) a + S16.size a ≤ S8192.size a
  k0_off573_inb : ∀ k0_t47 : Fin k0_t47_loop.trips, ∀ a, (k0_off573 k0_t47) a + S16.size a ≤ S8192.size a
  k0_off574_inb : ∀ (i : grid0.Coords) (k0_t46 : Fin (k0_t46_loop i).trips), ∀ a, (k0_off574 i k0_t46) a + S1x8192.size a ≤ S936x16384.size a
  k0_t48_ok : k0_t48_loop.OK
  k0_off575_inb : ∀ k0_t48 : Fin k0_t48_loop.trips, ∀ a, (k0_off575 k0_t48) a + S16.size a ≤ S8192.size a
  k0_off576_inb : ∀ k0_t48 : Fin k0_t48_loop.trips, ∀ (r : Fin 2), ∀ a, (k0_off576 k0_t48 (BitVec.ofNat 32 (16 * r.val))) a + S16.size a ≤ S8192.size a
  k0_off577_inb : ∀ k0_t48 : Fin k0_t48_loop.trips, ∀ (r : Fin 2), ∀ a, (k0_off577 k0_t48 (BitVec.ofNat 32 (16 + 16 * r.val))) a + S16.size a ≤ S8192.size a
  k0_off578_inb : ∀ k0_t48 : Fin k0_t48_loop.trips, ∀ (r : Fin 2), ∀ a, (k0_off578 k0_t48 (BitVec.ofNat 32 (32 + 16 * r.val))) a + S16.size a ≤ S8192.size a
  k0_off579_inb : ∀ k0_t48 : Fin k0_t48_loop.trips, ∀ (r : Fin 2), ∀ a, (k0_off579 k0_t48 (BitVec.ofNat 32 (48 + 16 * r.val))) a + S16.size a ≤ S8192.size a
  k0_off580_inb : ∀ k0_t48 : Fin k0_t48_loop.trips, ∀ (r : Fin 2), ∀ a, (k0_off580 k0_t48 (BitVec.ofNat 32 (64 + 16 * r.val))) a + S16.size a ≤ S8192.size a
  k0_off581_inb : ∀ k0_t48 : Fin k0_t48_loop.trips, ∀ (r : Fin 2), ∀ a, (k0_off581 k0_t48 (BitVec.ofNat 32 (80 + 16 * r.val))) a + S16.size a ≤ S8192.size a
  k0_off582_inb : ∀ k0_t48 : Fin k0_t48_loop.trips, ∀ (r : Fin 2), ∀ a, (k0_off582 k0_t48 (BitVec.ofNat 32 (96 + 16 * r.val))) a + S16.size a ≤ S8192.size a
  k0_off583_inb : ∀ k0_t48 : Fin k0_t48_loop.trips, ∀ (r : Fin 2), ∀ a, (k0_off583 k0_t48 (BitVec.ofNat 32 (112 + 16 * r.val))) a + S16.size a ≤ S8192.size a
  k0_off584_inb : ∀ k0_t48 : Fin k0_t48_loop.trips, ∀ (r : Fin 2), ∀ a, (k0_off584 k0_t48 (BitVec.ofNat 32 (128 + 16 * r.val))) a + S16.size a ≤ S8192.size a
  k0_off585_inb : ∀ k0_t48 : Fin k0_t48_loop.trips, ∀ (r : Fin 2), ∀ a, (k0_off585 k0_t48 (BitVec.ofNat 32 (144 + 16 * r.val))) a + S16.size a ≤ S8192.size a
  k0_off586_inb : ∀ k0_t48 : Fin k0_t48_loop.trips, ∀ (r : Fin 2), ∀ a, (k0_off586 k0_t48 (BitVec.ofNat 32 (160 + 16 * r.val))) a + S16.size a ≤ S8192.size a
  k0_off587_inb : ∀ k0_t48 : Fin k0_t48_loop.trips, ∀ (r : Fin 2), ∀ a, (k0_off587 k0_t48 (BitVec.ofNat 32 (176 + 16 * r.val))) a + S16.size a ≤ S8192.size a
  k0_off588_inb : ∀ k0_t48 : Fin k0_t48_loop.trips, ∀ (r : Fin 2), ∀ a, (k0_off588 k0_t48 (BitVec.ofNat 32 (192 + 16 * r.val))) a + S16.size a ≤ S8192.size a
  k0_off589_inb : ∀ k0_t48 : Fin k0_t48_loop.trips, ∀ (r : Fin 2), ∀ a, (k0_off589 k0_t48 (BitVec.ofNat 32 (208 + 16 * r.val))) a + S16.size a ≤ S8192.size a
  k0_off590_inb : ∀ k0_t48 : Fin k0_t48_loop.trips, ∀ (r : Fin 2), ∀ a, (k0_off590 k0_t48 (BitVec.ofNat 32 (224 + 16 * r.val))) a + S16.size a ≤ S8192.size a
  k0_off591_inb : ∀ k0_t48 : Fin k0_t48_loop.trips, ∀ a, (k0_off591 k0_t48) a + S16.size a ≤ S8192.size a
  k0_off592_inb : ∀ (i : grid0.Coords) (k0_t46 : Fin (k0_t46_loop i).trips), ∀ a, (k0_off592 i k0_t46) a + S1x8192.size a ≤ S936x16384.size a
  k0_t49_ok : ∀ i : grid0.Coords, (k0_t49_loop i).OK
  k0_off593_inb : ∀ (i : grid0.Coords) (k0_t49 : Fin (k0_t49_loop i).trips), ∀ a, (k0_off593 i k0_t49) a + S1x100000.size a ≤ S36x100000.size a
  k0_t50_ok : k0_t50_loop.OK
  k0_off594_inb : ∀ k0_t50 : Fin k0_t50_loop.trips, ∀ a, (k0_off594 k0_t50) a + S16.size a ≤ S8192.size a
  k0_off595_inb : ∀ k0_t50 : Fin k0_t50_loop.trips, ∀ (r : Fin 2), ∀ a, (k0_off595 k0_t50 (BitVec.ofNat 32 (16 * r.val))) a + S16.size a ≤ S8192.size a
  k0_off596_inb : ∀ k0_t50 : Fin k0_t50_loop.trips, ∀ (r : Fin 2), ∀ a, (k0_off596 k0_t50 (BitVec.ofNat 32 (16 + 16 * r.val))) a + S16.size a ≤ S8192.size a
  k0_off597_inb : ∀ k0_t50 : Fin k0_t50_loop.trips, ∀ (r : Fin 2), ∀ a, (k0_off597 k0_t50 (BitVec.ofNat 32 (32 + 16 * r.val))) a + S16.size a ≤ S8192.size a
  k0_off598_inb : ∀ k0_t50 : Fin k0_t50_loop.trips, ∀ (r : Fin 2), ∀ a, (k0_off598 k0_t50 (BitVec.ofNat 32 (48 + 16 * r.val))) a + S16.size a ≤ S8192.size a
  k0_off599_inb : ∀ k0_t50 : Fin k0_t50_loop.trips, ∀ (r : Fin 2), ∀ a, (k0_off599 k0_t50 (BitVec.ofNat 32 (64 + 16 * r.val))) a + S16.size a ≤ S8192.size a
  k0_off600_inb : ∀ k0_t50 : Fin k0_t50_loop.trips, ∀ (r : Fin 2), ∀ a, (k0_off600 k0_t50 (BitVec.ofNat 32 (80 + 16 * r.val))) a + S16.size a ≤ S8192.size a
  k0_off601_inb : ∀ k0_t50 : Fin k0_t50_loop.trips, ∀ (r : Fin 2), ∀ a, (k0_off601 k0_t50 (BitVec.ofNat 32 (96 + 16 * r.val))) a + S16.size a ≤ S8192.size a
  k0_off602_inb : ∀ k0_t50 : Fin k0_t50_loop.trips, ∀ (r : Fin 2), ∀ a, (k0_off602 k0_t50 (BitVec.ofNat 32 (112 + 16 * r.val))) a + S16.size a ≤ S8192.size a
  k0_off603_inb : ∀ k0_t50 : Fin k0_t50_loop.trips, ∀ (r : Fin 2), ∀ a, (k0_off603 k0_t50 (BitVec.ofNat 32 (128 + 16 * r.val))) a + S16.size a ≤ S8192.size a
  k0_off604_inb : ∀ k0_t50 : Fin k0_t50_loop.trips, ∀ (r : Fin 2), ∀ a, (k0_off604 k0_t50 (BitVec.ofNat 32 (144 + 16 * r.val))) a + S16.size a ≤ S8192.size a
  k0_off605_inb : ∀ k0_t50 : Fin k0_t50_loop.trips, ∀ (r : Fin 2), ∀ a, (k0_off605 k0_t50 (BitVec.ofNat 32 (160 + 16 * r.val))) a + S16.size a ≤ S8192.size a
  k0_off606_inb : ∀ k0_t50 : Fin k0_t50_loop.trips, ∀ (r : Fin 2), ∀ a, (k0_off606 k0_t50 (BitVec.ofNat 32 (176 + 16 * r.val))) a + S16.size a ≤ S8192.size a
  k0_off607_inb : ∀ k0_t50 : Fin k0_t50_loop.trips, ∀ (r : Fin 2), ∀ a, (k0_off607 k0_t50 (BitVec.ofNat 32 (192 + 16 * r.val))) a + S16.size a ≤ S8192.size a
  k0_off608_inb : ∀ k0_t50 : Fin k0_t50_loop.trips, ∀ (r : Fin 2), ∀ a, (k0_off608 k0_t50 (BitVec.ofNat 32 (208 + 16 * r.val))) a + S16.size a ≤ S8192.size a
  k0_off609_inb : ∀ k0_t50 : Fin k0_t50_loop.trips, ∀ (r : Fin 2), ∀ a, (k0_off609 k0_t50 (BitVec.ofNat 32 (224 + 16 * r.val))) a + S16.size a ≤ S8192.size a
  k0_off610_inb : ∀ k0_t50 : Fin k0_t50_loop.trips, ∀ a, (k0_off610 k0_t50) a + S16.size a ≤ S8192.size a
  k0_off611_inb : ∀ (i : grid0.Coords) (k0_t49 : Fin (k0_t49_loop i).trips), ∀ a, (k0_off611 i k0_t49) a + S1x8192.size a ≤ S936x16384.size a
  k0_t51_ok : k0_t51_loop.OK
  k0_off612_inb : ∀ k0_t51 : Fin k0_t51_loop.trips, ∀ a, (k0_off612 k0_t51) a + S16.size a ≤ S8192.size a
  k0_off613_inb : ∀ k0_t51 : Fin k0_t51_loop.trips, ∀ (r : Fin 2), ∀ a, (k0_off613 k0_t51 (BitVec.ofNat 32 (16 * r.val))) a + S16.size a ≤ S8192.size a
  k0_off614_inb : ∀ k0_t51 : Fin k0_t51_loop.trips, ∀ (r : Fin 2), ∀ a, (k0_off614 k0_t51 (BitVec.ofNat 32 (16 + 16 * r.val))) a + S16.size a ≤ S8192.size a
  k0_off615_inb : ∀ k0_t51 : Fin k0_t51_loop.trips, ∀ (r : Fin 2), ∀ a, (k0_off615 k0_t51 (BitVec.ofNat 32 (32 + 16 * r.val))) a + S16.size a ≤ S8192.size a
  k0_off616_inb : ∀ k0_t51 : Fin k0_t51_loop.trips, ∀ (r : Fin 2), ∀ a, (k0_off616 k0_t51 (BitVec.ofNat 32 (48 + 16 * r.val))) a + S16.size a ≤ S8192.size a
  k0_off617_inb : ∀ k0_t51 : Fin k0_t51_loop.trips, ∀ (r : Fin 2), ∀ a, (k0_off617 k0_t51 (BitVec.ofNat 32 (64 + 16 * r.val))) a + S16.size a ≤ S8192.size a
  k0_off618_inb : ∀ k0_t51 : Fin k0_t51_loop.trips, ∀ (r : Fin 2), ∀ a, (k0_off618 k0_t51 (BitVec.ofNat 32 (80 + 16 * r.val))) a + S16.size a ≤ S8192.size a
  k0_off619_inb : ∀ k0_t51 : Fin k0_t51_loop.trips, ∀ (r : Fin 2), ∀ a, (k0_off619 k0_t51 (BitVec.ofNat 32 (96 + 16 * r.val))) a + S16.size a ≤ S8192.size a
  k0_off620_inb : ∀ k0_t51 : Fin k0_t51_loop.trips, ∀ (r : Fin 2), ∀ a, (k0_off620 k0_t51 (BitVec.ofNat 32 (112 + 16 * r.val))) a + S16.size a ≤ S8192.size a
  k0_off621_inb : ∀ k0_t51 : Fin k0_t51_loop.trips, ∀ (r : Fin 2), ∀ a, (k0_off621 k0_t51 (BitVec.ofNat 32 (128 + 16 * r.val))) a + S16.size a ≤ S8192.size a
  k0_off622_inb : ∀ k0_t51 : Fin k0_t51_loop.trips, ∀ (r : Fin 2), ∀ a, (k0_off622 k0_t51 (BitVec.ofNat 32 (144 + 16 * r.val))) a + S16.size a ≤ S8192.size a
  k0_off623_inb : ∀ k0_t51 : Fin k0_t51_loop.trips, ∀ (r : Fin 2), ∀ a, (k0_off623 k0_t51 (BitVec.ofNat 32 (160 + 16 * r.val))) a + S16.size a ≤ S8192.size a
  k0_off624_inb : ∀ k0_t51 : Fin k0_t51_loop.trips, ∀ (r : Fin 2), ∀ a, (k0_off624 k0_t51 (BitVec.ofNat 32 (176 + 16 * r.val))) a + S16.size a ≤ S8192.size a
  k0_off625_inb : ∀ k0_t51 : Fin k0_t51_loop.trips, ∀ (r : Fin 2), ∀ a, (k0_off625 k0_t51 (BitVec.ofNat 32 (192 + 16 * r.val))) a + S16.size a ≤ S8192.size a
  k0_off626_inb : ∀ k0_t51 : Fin k0_t51_loop.trips, ∀ (r : Fin 2), ∀ a, (k0_off626 k0_t51 (BitVec.ofNat 32 (208 + 16 * r.val))) a + S16.size a ≤ S8192.size a
  k0_off627_inb : ∀ k0_t51 : Fin k0_t51_loop.trips, ∀ (r : Fin 2), ∀ a, (k0_off627 k0_t51 (BitVec.ofNat 32 (224 + 16 * r.val))) a + S16.size a ≤ S8192.size a
  k0_off628_inb : ∀ k0_t51 : Fin k0_t51_loop.trips, ∀ a, (k0_off628 k0_t51) a + S16.size a ≤ S8192.size a
  k0_off629_inb : ∀ (i : grid0.Coords) (k0_t49 : Fin (k0_t49_loop i).trips), ∀ a, (k0_off629 i k0_t49) a + S1x8192.size a ≤ S936x16384.size a
  k0_t52_ok : ∀ i : grid0.Coords, (k0_t52_loop i).OK
  k0_off630_inb : ∀ (i : grid0.Coords) (k0_t52 : Fin (k0_t52_loop i).trips), ∀ a, (k0_off630 i k0_t52) a + S1x100000.size a ≤ S36x100000.size a
  k0_t53_ok : k0_t53_loop.OK
  k0_off631_inb : ∀ k0_t53 : Fin k0_t53_loop.trips, ∀ a, (k0_off631 k0_t53) a + S16.size a ≤ S8192.size a
  k0_off632_inb : ∀ k0_t53 : Fin k0_t53_loop.trips, ∀ (r : Fin 2), ∀ a, (k0_off632 k0_t53 (BitVec.ofNat 32 (16 * r.val))) a + S16.size a ≤ S8192.size a
  k0_off633_inb : ∀ k0_t53 : Fin k0_t53_loop.trips, ∀ (r : Fin 2), ∀ a, (k0_off633 k0_t53 (BitVec.ofNat 32 (16 + 16 * r.val))) a + S16.size a ≤ S8192.size a
  k0_off634_inb : ∀ k0_t53 : Fin k0_t53_loop.trips, ∀ (r : Fin 2), ∀ a, (k0_off634 k0_t53 (BitVec.ofNat 32 (32 + 16 * r.val))) a + S16.size a ≤ S8192.size a
  k0_off635_inb : ∀ k0_t53 : Fin k0_t53_loop.trips, ∀ (r : Fin 2), ∀ a, (k0_off635 k0_t53 (BitVec.ofNat 32 (48 + 16 * r.val))) a + S16.size a ≤ S8192.size a
  k0_off636_inb : ∀ k0_t53 : Fin k0_t53_loop.trips, ∀ (r : Fin 2), ∀ a, (k0_off636 k0_t53 (BitVec.ofNat 32 (64 + 16 * r.val))) a + S16.size a ≤ S8192.size a
  k0_off637_inb : ∀ k0_t53 : Fin k0_t53_loop.trips, ∀ (r : Fin 2), ∀ a, (k0_off637 k0_t53 (BitVec.ofNat 32 (80 + 16 * r.val))) a + S16.size a ≤ S8192.size a
  k0_off638_inb : ∀ k0_t53 : Fin k0_t53_loop.trips, ∀ (r : Fin 2), ∀ a, (k0_off638 k0_t53 (BitVec.ofNat 32 (96 + 16 * r.val))) a + S16.size a ≤ S8192.size a
  k0_off639_inb : ∀ k0_t53 : Fin k0_t53_loop.trips, ∀ (r : Fin 2), ∀ a, (k0_off639 k0_t53 (BitVec.ofNat 32 (112 + 16 * r.val))) a + S16.size a ≤ S8192.size a
  k0_off640_inb : ∀ k0_t53 : Fin k0_t53_loop.trips, ∀ (r : Fin 2), ∀ a, (k0_off640 k0_t53 (BitVec.ofNat 32 (128 + 16 * r.val))) a + S16.size a ≤ S8192.size a
  k0_off641_inb : ∀ k0_t53 : Fin k0_t53_loop.trips, ∀ (r : Fin 2), ∀ a, (k0_off641 k0_t53 (BitVec.ofNat 32 (144 + 16 * r.val))) a + S16.size a ≤ S8192.size a
  k0_off642_inb : ∀ k0_t53 : Fin k0_t53_loop.trips, ∀ (r : Fin 2), ∀ a, (k0_off642 k0_t53 (BitVec.ofNat 32 (160 + 16 * r.val))) a + S16.size a ≤ S8192.size a
  k0_off643_inb : ∀ k0_t53 : Fin k0_t53_loop.trips, ∀ (r : Fin 2), ∀ a, (k0_off643 k0_t53 (BitVec.ofNat 32 (176 + 16 * r.val))) a + S16.size a ≤ S8192.size a
  k0_off644_inb : ∀ k0_t53 : Fin k0_t53_loop.trips, ∀ (r : Fin 2), ∀ a, (k0_off644 k0_t53 (BitVec.ofNat 32 (192 + 16 * r.val))) a + S16.size a ≤ S8192.size a
  k0_off645_inb : ∀ k0_t53 : Fin k0_t53_loop.trips, ∀ (r : Fin 2), ∀ a, (k0_off645 k0_t53 (BitVec.ofNat 32 (208 + 16 * r.val))) a + S16.size a ≤ S8192.size a
  k0_off646_inb : ∀ k0_t53 : Fin k0_t53_loop.trips, ∀ (r : Fin 2), ∀ a, (k0_off646 k0_t53 (BitVec.ofNat 32 (224 + 16 * r.val))) a + S16.size a ≤ S8192.size a
  k0_off647_inb : ∀ k0_t53 : Fin k0_t53_loop.trips, ∀ a, (k0_off647 k0_t53) a + S16.size a ≤ S8192.size a
  k0_off648_inb : ∀ (i : grid0.Coords) (k0_t52 : Fin (k0_t52_loop i).trips), ∀ a, (k0_off648 i k0_t52) a + S1x8192.size a ≤ S936x16384.size a
  k0_t54_ok : k0_t54_loop.OK
  k0_off649_inb : ∀ k0_t54 : Fin k0_t54_loop.trips, ∀ a, (k0_off649 k0_t54) a + S16.size a ≤ S8192.size a
  k0_off650_inb : ∀ k0_t54 : Fin k0_t54_loop.trips, ∀ (r : Fin 2), ∀ a, (k0_off650 k0_t54 (BitVec.ofNat 32 (16 * r.val))) a + S16.size a ≤ S8192.size a
  k0_off651_inb : ∀ k0_t54 : Fin k0_t54_loop.trips, ∀ (r : Fin 2), ∀ a, (k0_off651 k0_t54 (BitVec.ofNat 32 (16 + 16 * r.val))) a + S16.size a ≤ S8192.size a
  k0_off652_inb : ∀ k0_t54 : Fin k0_t54_loop.trips, ∀ (r : Fin 2), ∀ a, (k0_off652 k0_t54 (BitVec.ofNat 32 (32 + 16 * r.val))) a + S16.size a ≤ S8192.size a
  k0_off653_inb : ∀ k0_t54 : Fin k0_t54_loop.trips, ∀ (r : Fin 2), ∀ a, (k0_off653 k0_t54 (BitVec.ofNat 32 (48 + 16 * r.val))) a + S16.size a ≤ S8192.size a
  k0_off654_inb : ∀ k0_t54 : Fin k0_t54_loop.trips, ∀ (r : Fin 2), ∀ a, (k0_off654 k0_t54 (BitVec.ofNat 32 (64 + 16 * r.val))) a + S16.size a ≤ S8192.size a
  k0_off655_inb : ∀ k0_t54 : Fin k0_t54_loop.trips, ∀ (r : Fin 2), ∀ a, (k0_off655 k0_t54 (BitVec.ofNat 32 (80 + 16 * r.val))) a + S16.size a ≤ S8192.size a
  k0_off656_inb : ∀ k0_t54 : Fin k0_t54_loop.trips, ∀ (r : Fin 2), ∀ a, (k0_off656 k0_t54 (BitVec.ofNat 32 (96 + 16 * r.val))) a + S16.size a ≤ S8192.size a
  k0_off657_inb : ∀ k0_t54 : Fin k0_t54_loop.trips, ∀ (r : Fin 2), ∀ a, (k0_off657 k0_t54 (BitVec.ofNat 32 (112 + 16 * r.val))) a + S16.size a ≤ S8192.size a
  k0_off658_inb : ∀ k0_t54 : Fin k0_t54_loop.trips, ∀ (r : Fin 2), ∀ a, (k0_off658 k0_t54 (BitVec.ofNat 32 (128 + 16 * r.val))) a + S16.size a ≤ S8192.size a
  k0_off659_inb : ∀ k0_t54 : Fin k0_t54_loop.trips, ∀ (r : Fin 2), ∀ a, (k0_off659 k0_t54 (BitVec.ofNat 32 (144 + 16 * r.val))) a + S16.size a ≤ S8192.size a
  k0_off660_inb : ∀ k0_t54 : Fin k0_t54_loop.trips, ∀ (r : Fin 2), ∀ a, (k0_off660 k0_t54 (BitVec.ofNat 32 (160 + 16 * r.val))) a + S16.size a ≤ S8192.size a
  k0_off661_inb : ∀ k0_t54 : Fin k0_t54_loop.trips, ∀ (r : Fin 2), ∀ a, (k0_off661 k0_t54 (BitVec.ofNat 32 (176 + 16 * r.val))) a + S16.size a ≤ S8192.size a
  k0_off662_inb : ∀ k0_t54 : Fin k0_t54_loop.trips, ∀ (r : Fin 2), ∀ a, (k0_off662 k0_t54 (BitVec.ofNat 32 (192 + 16 * r.val))) a + S16.size a ≤ S8192.size a
  k0_off663_inb : ∀ k0_t54 : Fin k0_t54_loop.trips, ∀ (r : Fin 2), ∀ a, (k0_off663 k0_t54 (BitVec.ofNat 32 (208 + 16 * r.val))) a + S16.size a ≤ S8192.size a
  k0_off664_inb : ∀ k0_t54 : Fin k0_t54_loop.trips, ∀ (r : Fin 2), ∀ a, (k0_off664 k0_t54 (BitVec.ofNat 32 (224 + 16 * r.val))) a + S16.size a ≤ S8192.size a
  k0_off665_inb : ∀ k0_t54 : Fin k0_t54_loop.trips, ∀ a, (k0_off665 k0_t54) a + S16.size a ≤ S8192.size a
  k0_off666_inb : ∀ (i : grid0.Coords) (k0_t52 : Fin (k0_t52_loop i).trips), ∀ a, (k0_off666 i k0_t52) a + S1x8192.size a ≤ S936x16384.size a
  k0_t55_ok : ∀ i : grid0.Coords, (k0_t55_loop i).OK
  k0_off667_inb : ∀ (i : grid0.Coords) (k0_t55 : Fin (k0_t55_loop i).trips), ∀ a, (k0_off667 i k0_t55) a + S1x100000.size a ≤ S36x100000.size a
  k0_t56_ok : k0_t56_loop.OK
  k0_off668_inb : ∀ k0_t56 : Fin k0_t56_loop.trips, ∀ a, (k0_off668 k0_t56) a + S16.size a ≤ S8192.size a
  k0_off669_inb : ∀ k0_t56 : Fin k0_t56_loop.trips, ∀ (r : Fin 2), ∀ a, (k0_off669 k0_t56 (BitVec.ofNat 32 (16 * r.val))) a + S16.size a ≤ S8192.size a
  k0_off670_inb : ∀ k0_t56 : Fin k0_t56_loop.trips, ∀ (r : Fin 2), ∀ a, (k0_off670 k0_t56 (BitVec.ofNat 32 (16 + 16 * r.val))) a + S16.size a ≤ S8192.size a
  k0_off671_inb : ∀ k0_t56 : Fin k0_t56_loop.trips, ∀ (r : Fin 2), ∀ a, (k0_off671 k0_t56 (BitVec.ofNat 32 (32 + 16 * r.val))) a + S16.size a ≤ S8192.size a
  k0_off672_inb : ∀ k0_t56 : Fin k0_t56_loop.trips, ∀ (r : Fin 2), ∀ a, (k0_off672 k0_t56 (BitVec.ofNat 32 (48 + 16 * r.val))) a + S16.size a ≤ S8192.size a
  k0_off673_inb : ∀ k0_t56 : Fin k0_t56_loop.trips, ∀ (r : Fin 2), ∀ a, (k0_off673 k0_t56 (BitVec.ofNat 32 (64 + 16 * r.val))) a + S16.size a ≤ S8192.size a
  k0_off674_inb : ∀ k0_t56 : Fin k0_t56_loop.trips, ∀ (r : Fin 2), ∀ a, (k0_off674 k0_t56 (BitVec.ofNat 32 (80 + 16 * r.val))) a + S16.size a ≤ S8192.size a
  k0_off675_inb : ∀ k0_t56 : Fin k0_t56_loop.trips, ∀ (r : Fin 2), ∀ a, (k0_off675 k0_t56 (BitVec.ofNat 32 (96 + 16 * r.val))) a + S16.size a ≤ S8192.size a
  k0_off676_inb : ∀ k0_t56 : Fin k0_t56_loop.trips, ∀ (r : Fin 2), ∀ a, (k0_off676 k0_t56 (BitVec.ofNat 32 (112 + 16 * r.val))) a + S16.size a ≤ S8192.size a
  k0_off677_inb : ∀ k0_t56 : Fin k0_t56_loop.trips, ∀ (r : Fin 2), ∀ a, (k0_off677 k0_t56 (BitVec.ofNat 32 (128 + 16 * r.val))) a + S16.size a ≤ S8192.size a
  k0_off678_inb : ∀ k0_t56 : Fin k0_t56_loop.trips, ∀ (r : Fin 2), ∀ a, (k0_off678 k0_t56 (BitVec.ofNat 32 (144 + 16 * r.val))) a + S16.size a ≤ S8192.size a
  k0_off679_inb : ∀ k0_t56 : Fin k0_t56_loop.trips, ∀ (r : Fin 2), ∀ a, (k0_off679 k0_t56 (BitVec.ofNat 32 (160 + 16 * r.val))) a + S16.size a ≤ S8192.size a
  k0_off680_inb : ∀ k0_t56 : Fin k0_t56_loop.trips, ∀ (r : Fin 2), ∀ a, (k0_off680 k0_t56 (BitVec.ofNat 32 (176 + 16 * r.val))) a + S16.size a ≤ S8192.size a
  k0_off681_inb : ∀ k0_t56 : Fin k0_t56_loop.trips, ∀ (r : Fin 2), ∀ a, (k0_off681 k0_t56 (BitVec.ofNat 32 (192 + 16 * r.val))) a + S16.size a ≤ S8192.size a
  k0_off682_inb : ∀ k0_t56 : Fin k0_t56_loop.trips, ∀ (r : Fin 2), ∀ a, (k0_off682 k0_t56 (BitVec.ofNat 32 (208 + 16 * r.val))) a + S16.size a ≤ S8192.size a
  k0_off683_inb : ∀ k0_t56 : Fin k0_t56_loop.trips, ∀ (r : Fin 2), ∀ a, (k0_off683 k0_t56 (BitVec.ofNat 32 (224 + 16 * r.val))) a + S16.size a ≤ S8192.size a
  k0_off684_inb : ∀ k0_t56 : Fin k0_t56_loop.trips, ∀ a, (k0_off684 k0_t56) a + S16.size a ≤ S8192.size a
  k0_off685_inb : ∀ (i : grid0.Coords) (k0_t55 : Fin (k0_t55_loop i).trips), ∀ a, (k0_off685 i k0_t55) a + S1x8192.size a ≤ S936x16384.size a
  k0_t57_ok : k0_t57_loop.OK
  k0_off686_inb : ∀ k0_t57 : Fin k0_t57_loop.trips, ∀ a, (k0_off686 k0_t57) a + S16.size a ≤ S8192.size a
  k0_off687_inb : ∀ k0_t57 : Fin k0_t57_loop.trips, ∀ (r : Fin 2), ∀ a, (k0_off687 k0_t57 (BitVec.ofNat 32 (16 * r.val))) a + S16.size a ≤ S8192.size a
  k0_off688_inb : ∀ k0_t57 : Fin k0_t57_loop.trips, ∀ (r : Fin 2), ∀ a, (k0_off688 k0_t57 (BitVec.ofNat 32 (16 + 16 * r.val))) a + S16.size a ≤ S8192.size a
  k0_off689_inb : ∀ k0_t57 : Fin k0_t57_loop.trips, ∀ (r : Fin 2), ∀ a, (k0_off689 k0_t57 (BitVec.ofNat 32 (32 + 16 * r.val))) a + S16.size a ≤ S8192.size a
  k0_off690_inb : ∀ k0_t57 : Fin k0_t57_loop.trips, ∀ (r : Fin 2), ∀ a, (k0_off690 k0_t57 (BitVec.ofNat 32 (48 + 16 * r.val))) a + S16.size a ≤ S8192.size a
  k0_off691_inb : ∀ k0_t57 : Fin k0_t57_loop.trips, ∀ (r : Fin 2), ∀ a, (k0_off691 k0_t57 (BitVec.ofNat 32 (64 + 16 * r.val))) a + S16.size a ≤ S8192.size a
  k0_off692_inb : ∀ k0_t57 : Fin k0_t57_loop.trips, ∀ (r : Fin 2), ∀ a, (k0_off692 k0_t57 (BitVec.ofNat 32 (80 + 16 * r.val))) a + S16.size a ≤ S8192.size a
  k0_off693_inb : ∀ k0_t57 : Fin k0_t57_loop.trips, ∀ (r : Fin 2), ∀ a, (k0_off693 k0_t57 (BitVec.ofNat 32 (96 + 16 * r.val))) a + S16.size a ≤ S8192.size a
  k0_off694_inb : ∀ k0_t57 : Fin k0_t57_loop.trips, ∀ (r : Fin 2), ∀ a, (k0_off694 k0_t57 (BitVec.ofNat 32 (112 + 16 * r.val))) a + S16.size a ≤ S8192.size a
  k0_off695_inb : ∀ k0_t57 : Fin k0_t57_loop.trips, ∀ (r : Fin 2), ∀ a, (k0_off695 k0_t57 (BitVec.ofNat 32 (128 + 16 * r.val))) a + S16.size a ≤ S8192.size a
  k0_off696_inb : ∀ k0_t57 : Fin k0_t57_loop.trips, ∀ (r : Fin 2), ∀ a, (k0_off696 k0_t57 (BitVec.ofNat 32 (144 + 16 * r.val))) a + S16.size a ≤ S8192.size a
  k0_off697_inb : ∀ k0_t57 : Fin k0_t57_loop.trips, ∀ (r : Fin 2), ∀ a, (k0_off697 k0_t57 (BitVec.ofNat 32 (160 + 16 * r.val))) a + S16.size a ≤ S8192.size a
  k0_off698_inb : ∀ k0_t57 : Fin k0_t57_loop.trips, ∀ (r : Fin 2), ∀ a, (k0_off698 k0_t57 (BitVec.ofNat 32 (176 + 16 * r.val))) a + S16.size a ≤ S8192.size a
  k0_off699_inb : ∀ k0_t57 : Fin k0_t57_loop.trips, ∀ (r : Fin 2), ∀ a, (k0_off699 k0_t57 (BitVec.ofNat 32 (192 + 16 * r.val))) a + S16.size a ≤ S8192.size a
  k0_off700_inb : ∀ k0_t57 : Fin k0_t57_loop.trips, ∀ (r : Fin 2), ∀ a, (k0_off700 k0_t57 (BitVec.ofNat 32 (208 + 16 * r.val))) a + S16.size a ≤ S8192.size a
  k0_off701_inb : ∀ k0_t57 : Fin k0_t57_loop.trips, ∀ (r : Fin 2), ∀ a, (k0_off701 k0_t57 (BitVec.ofNat 32 (224 + 16 * r.val))) a + S16.size a ≤ S8192.size a
  k0_off702_inb : ∀ k0_t57 : Fin k0_t57_loop.trips, ∀ a, (k0_off702 k0_t57) a + S16.size a ≤ S8192.size a
  k0_off703_inb : ∀ (i : grid0.Coords) (k0_t55 : Fin (k0_t55_loop i).trips), ∀ a, (k0_off703 i k0_t55) a + S1x8192.size a ≤ S936x16384.size a
  k0_t58_ok : ∀ i : grid0.Coords, (k0_t58_loop i).OK
  k0_off704_inb : ∀ (i : grid0.Coords) (k0_t58 : Fin (k0_t58_loop i).trips), ∀ a, (k0_off704 i k0_t58) a + S1x100000.size a ≤ S36x100000.size a
  k0_t59_ok : k0_t59_loop.OK
  k0_off705_inb : ∀ k0_t59 : Fin k0_t59_loop.trips, ∀ a, (k0_off705 k0_t59) a + S16.size a ≤ S8192.size a
  k0_off706_inb : ∀ k0_t59 : Fin k0_t59_loop.trips, ∀ (r : Fin 2), ∀ a, (k0_off706 k0_t59 (BitVec.ofNat 32 (16 * r.val))) a + S16.size a ≤ S8192.size a
  k0_off707_inb : ∀ k0_t59 : Fin k0_t59_loop.trips, ∀ (r : Fin 2), ∀ a, (k0_off707 k0_t59 (BitVec.ofNat 32 (16 + 16 * r.val))) a + S16.size a ≤ S8192.size a
  k0_off708_inb : ∀ k0_t59 : Fin k0_t59_loop.trips, ∀ (r : Fin 2), ∀ a, (k0_off708 k0_t59 (BitVec.ofNat 32 (32 + 16 * r.val))) a + S16.size a ≤ S8192.size a
  k0_off709_inb : ∀ k0_t59 : Fin k0_t59_loop.trips, ∀ (r : Fin 2), ∀ a, (k0_off709 k0_t59 (BitVec.ofNat 32 (48 + 16 * r.val))) a + S16.size a ≤ S8192.size a
  k0_off710_inb : ∀ k0_t59 : Fin k0_t59_loop.trips, ∀ (r : Fin 2), ∀ a, (k0_off710 k0_t59 (BitVec.ofNat 32 (64 + 16 * r.val))) a + S16.size a ≤ S8192.size a
  k0_off711_inb : ∀ k0_t59 : Fin k0_t59_loop.trips, ∀ (r : Fin 2), ∀ a, (k0_off711 k0_t59 (BitVec.ofNat 32 (80 + 16 * r.val))) a + S16.size a ≤ S8192.size a
  k0_off712_inb : ∀ k0_t59 : Fin k0_t59_loop.trips, ∀ (r : Fin 2), ∀ a, (k0_off712 k0_t59 (BitVec.ofNat 32 (96 + 16 * r.val))) a + S16.size a ≤ S8192.size a
  k0_off713_inb : ∀ k0_t59 : Fin k0_t59_loop.trips, ∀ (r : Fin 2), ∀ a, (k0_off713 k0_t59 (BitVec.ofNat 32 (112 + 16 * r.val))) a + S16.size a ≤ S8192.size a
  k0_off714_inb : ∀ k0_t59 : Fin k0_t59_loop.trips, ∀ (r : Fin 2), ∀ a, (k0_off714 k0_t59 (BitVec.ofNat 32 (128 + 16 * r.val))) a + S16.size a ≤ S8192.size a
  k0_off715_inb : ∀ k0_t59 : Fin k0_t59_loop.trips, ∀ (r : Fin 2), ∀ a, (k0_off715 k0_t59 (BitVec.ofNat 32 (144 + 16 * r.val))) a + S16.size a ≤ S8192.size a
  k0_off716_inb : ∀ k0_t59 : Fin k0_t59_loop.trips, ∀ (r : Fin 2), ∀ a, (k0_off716 k0_t59 (BitVec.ofNat 32 (160 + 16 * r.val))) a + S16.size a ≤ S8192.size a
  k0_off717_inb : ∀ k0_t59 : Fin k0_t59_loop.trips, ∀ (r : Fin 2), ∀ a, (k0_off717 k0_t59 (BitVec.ofNat 32 (176 + 16 * r.val))) a + S16.size a ≤ S8192.size a
  k0_off718_inb : ∀ k0_t59 : Fin k0_t59_loop.trips, ∀ (r : Fin 2), ∀ a, (k0_off718 k0_t59 (BitVec.ofNat 32 (192 + 16 * r.val))) a + S16.size a ≤ S8192.size a
  k0_off719_inb : ∀ k0_t59 : Fin k0_t59_loop.trips, ∀ (r : Fin 2), ∀ a, (k0_off719 k0_t59 (BitVec.ofNat 32 (208 + 16 * r.val))) a + S16.size a ≤ S8192.size a
  k0_off720_inb : ∀ k0_t59 : Fin k0_t59_loop.trips, ∀ (r : Fin 2), ∀ a, (k0_off720 k0_t59 (BitVec.ofNat 32 (224 + 16 * r.val))) a + S16.size a ≤ S8192.size a
  k0_off721_inb : ∀ k0_t59 : Fin k0_t59_loop.trips, ∀ a, (k0_off721 k0_t59) a + S16.size a ≤ S8192.size a
  k0_off722_inb : ∀ (i : grid0.Coords) (k0_t58 : Fin (k0_t58_loop i).trips), ∀ a, (k0_off722 i k0_t58) a + S1x8192.size a ≤ S936x16384.size a
  k0_t60_ok : k0_t60_loop.OK
  k0_off723_inb : ∀ k0_t60 : Fin k0_t60_loop.trips, ∀ a, (k0_off723 k0_t60) a + S16.size a ≤ S8192.size a
  k0_off724_inb : ∀ k0_t60 : Fin k0_t60_loop.trips, ∀ (r : Fin 2), ∀ a, (k0_off724 k0_t60 (BitVec.ofNat 32 (16 * r.val))) a + S16.size a ≤ S8192.size a
  k0_off725_inb : ∀ k0_t60 : Fin k0_t60_loop.trips, ∀ (r : Fin 2), ∀ a, (k0_off725 k0_t60 (BitVec.ofNat 32 (16 + 16 * r.val))) a + S16.size a ≤ S8192.size a
  k0_off726_inb : ∀ k0_t60 : Fin k0_t60_loop.trips, ∀ (r : Fin 2), ∀ a, (k0_off726 k0_t60 (BitVec.ofNat 32 (32 + 16 * r.val))) a + S16.size a ≤ S8192.size a
  k0_off727_inb : ∀ k0_t60 : Fin k0_t60_loop.trips, ∀ (r : Fin 2), ∀ a, (k0_off727 k0_t60 (BitVec.ofNat 32 (48 + 16 * r.val))) a + S16.size a ≤ S8192.size a
  k0_off728_inb : ∀ k0_t60 : Fin k0_t60_loop.trips, ∀ (r : Fin 2), ∀ a, (k0_off728 k0_t60 (BitVec.ofNat 32 (64 + 16 * r.val))) a + S16.size a ≤ S8192.size a
  k0_off729_inb : ∀ k0_t60 : Fin k0_t60_loop.trips, ∀ (r : Fin 2), ∀ a, (k0_off729 k0_t60 (BitVec.ofNat 32 (80 + 16 * r.val))) a + S16.size a ≤ S8192.size a
  k0_off730_inb : ∀ k0_t60 : Fin k0_t60_loop.trips, ∀ (r : Fin 2), ∀ a, (k0_off730 k0_t60 (BitVec.ofNat 32 (96 + 16 * r.val))) a + S16.size a ≤ S8192.size a
  k0_off731_inb : ∀ k0_t60 : Fin k0_t60_loop.trips, ∀ (r : Fin 2), ∀ a, (k0_off731 k0_t60 (BitVec.ofNat 32 (112 + 16 * r.val))) a + S16.size a ≤ S8192.size a
  k0_off732_inb : ∀ k0_t60 : Fin k0_t60_loop.trips, ∀ (r : Fin 2), ∀ a, (k0_off732 k0_t60 (BitVec.ofNat 32 (128 + 16 * r.val))) a + S16.size a ≤ S8192.size a
  k0_off733_inb : ∀ k0_t60 : Fin k0_t60_loop.trips, ∀ (r : Fin 2), ∀ a, (k0_off733 k0_t60 (BitVec.ofNat 32 (144 + 16 * r.val))) a + S16.size a ≤ S8192.size a
  k0_off734_inb : ∀ k0_t60 : Fin k0_t60_loop.trips, ∀ (r : Fin 2), ∀ a, (k0_off734 k0_t60 (BitVec.ofNat 32 (160 + 16 * r.val))) a + S16.size a ≤ S8192.size a
  k0_off735_inb : ∀ k0_t60 : Fin k0_t60_loop.trips, ∀ (r : Fin 2), ∀ a, (k0_off735 k0_t60 (BitVec.ofNat 32 (176 + 16 * r.val))) a + S16.size a ≤ S8192.size a
  k0_off736_inb : ∀ k0_t60 : Fin k0_t60_loop.trips, ∀ (r : Fin 2), ∀ a, (k0_off736 k0_t60 (BitVec.ofNat 32 (192 + 16 * r.val))) a + S16.size a ≤ S8192.size a
  k0_off737_inb : ∀ k0_t60 : Fin k0_t60_loop.trips, ∀ (r : Fin 2), ∀ a, (k0_off737 k0_t60 (BitVec.ofNat 32 (208 + 16 * r.val))) a + S16.size a ≤ S8192.size a
  k0_off738_inb : ∀ k0_t60 : Fin k0_t60_loop.trips, ∀ (r : Fin 2), ∀ a, (k0_off738 k0_t60 (BitVec.ofNat 32 (224 + 16 * r.val))) a + S16.size a ≤ S8192.size a
  k0_off739_inb : ∀ k0_t60 : Fin k0_t60_loop.trips, ∀ a, (k0_off739 k0_t60) a + S16.size a ≤ S8192.size a
  k0_off740_inb : ∀ (i : grid0.Coords) (k0_t58 : Fin (k0_t58_loop i).trips), ∀ a, (k0_off740 i k0_t58) a + S1x8192.size a ≤ S936x16384.size a
  k0_t61_ok : ∀ i : grid0.Coords, (k0_t61_loop i).OK
  k0_off741_inb : ∀ (i : grid0.Coords) (k0_t61 : Fin (k0_t61_loop i).trips), ∀ a, (k0_off741 i k0_t61) a + S1x100000.size a ≤ S36x100000.size a
  k0_t62_ok : k0_t62_loop.OK
  k0_off742_inb : ∀ k0_t62 : Fin k0_t62_loop.trips, ∀ a, (k0_off742 k0_t62) a + S16.size a ≤ S8192.size a
  k0_off743_inb : ∀ k0_t62 : Fin k0_t62_loop.trips, ∀ (r : Fin 2), ∀ a, (k0_off743 k0_t62 (BitVec.ofNat 32 (16 * r.val))) a + S16.size a ≤ S8192.size a
  k0_off744_inb : ∀ k0_t62 : Fin k0_t62_loop.trips, ∀ (r : Fin 2), ∀ a, (k0_off744 k0_t62 (BitVec.ofNat 32 (16 + 16 * r.val))) a + S16.size a ≤ S8192.size a
  k0_off745_inb : ∀ k0_t62 : Fin k0_t62_loop.trips, ∀ (r : Fin 2), ∀ a, (k0_off745 k0_t62 (BitVec.ofNat 32 (32 + 16 * r.val))) a + S16.size a ≤ S8192.size a
  k0_off746_inb : ∀ k0_t62 : Fin k0_t62_loop.trips, ∀ (r : Fin 2), ∀ a, (k0_off746 k0_t62 (BitVec.ofNat 32 (48 + 16 * r.val))) a + S16.size a ≤ S8192.size a
  k0_off747_inb : ∀ k0_t62 : Fin k0_t62_loop.trips, ∀ (r : Fin 2), ∀ a, (k0_off747 k0_t62 (BitVec.ofNat 32 (64 + 16 * r.val))) a + S16.size a ≤ S8192.size a
  k0_off748_inb : ∀ k0_t62 : Fin k0_t62_loop.trips, ∀ (r : Fin 2), ∀ a, (k0_off748 k0_t62 (BitVec.ofNat 32 (80 + 16 * r.val))) a + S16.size a ≤ S8192.size a
  k0_off749_inb : ∀ k0_t62 : Fin k0_t62_loop.trips, ∀ (r : Fin 2), ∀ a, (k0_off749 k0_t62 (BitVec.ofNat 32 (96 + 16 * r.val))) a + S16.size a ≤ S8192.size a
  k0_off750_inb : ∀ k0_t62 : Fin k0_t62_loop.trips, ∀ (r : Fin 2), ∀ a, (k0_off750 k0_t62 (BitVec.ofNat 32 (112 + 16 * r.val))) a + S16.size a ≤ S8192.size a
  k0_off751_inb : ∀ k0_t62 : Fin k0_t62_loop.trips, ∀ (r : Fin 2), ∀ a, (k0_off751 k0_t62 (BitVec.ofNat 32 (128 + 16 * r.val))) a + S16.size a ≤ S8192.size a
  k0_off752_inb : ∀ k0_t62 : Fin k0_t62_loop.trips, ∀ (r : Fin 2), ∀ a, (k0_off752 k0_t62 (BitVec.ofNat 32 (144 + 16 * r.val))) a + S16.size a ≤ S8192.size a
  k0_off753_inb : ∀ k0_t62 : Fin k0_t62_loop.trips, ∀ (r : Fin 2), ∀ a, (k0_off753 k0_t62 (BitVec.ofNat 32 (160 + 16 * r.val))) a + S16.size a ≤ S8192.size a
  k0_off754_inb : ∀ k0_t62 : Fin k0_t62_loop.trips, ∀ (r : Fin 2), ∀ a, (k0_off754 k0_t62 (BitVec.ofNat 32 (176 + 16 * r.val))) a + S16.size a ≤ S8192.size a
  k0_off755_inb : ∀ k0_t62 : Fin k0_t62_loop.trips, ∀ (r : Fin 2), ∀ a, (k0_off755 k0_t62 (BitVec.ofNat 32 (192 + 16 * r.val))) a + S16.size a ≤ S8192.size a
  k0_off756_inb : ∀ k0_t62 : Fin k0_t62_loop.trips, ∀ (r : Fin 2), ∀ a, (k0_off756 k0_t62 (BitVec.ofNat 32 (208 + 16 * r.val))) a + S16.size a ≤ S8192.size a
  k0_off757_inb : ∀ k0_t62 : Fin k0_t62_loop.trips, ∀ (r : Fin 2), ∀ a, (k0_off757 k0_t62 (BitVec.ofNat 32 (224 + 16 * r.val))) a + S16.size a ≤ S8192.size a
  k0_off758_inb : ∀ k0_t62 : Fin k0_t62_loop.trips, ∀ a, (k0_off758 k0_t62) a + S16.size a ≤ S8192.size a
  k0_off759_inb : ∀ (i : grid0.Coords) (k0_t61 : Fin (k0_t61_loop i).trips), ∀ a, (k0_off759 i k0_t61) a + S1x8192.size a ≤ S936x16384.size a
  k0_t63_ok : k0_t63_loop.OK
  k0_off760_inb : ∀ k0_t63 : Fin k0_t63_loop.trips, ∀ a, (k0_off760 k0_t63) a + S16.size a ≤ S8192.size a
  k0_off761_inb : ∀ k0_t63 : Fin k0_t63_loop.trips, ∀ (r : Fin 2), ∀ a, (k0_off761 k0_t63 (BitVec.ofNat 32 (16 * r.val))) a + S16.size a ≤ S8192.size a
  k0_off762_inb : ∀ k0_t63 : Fin k0_t63_loop.trips, ∀ (r : Fin 2), ∀ a, (k0_off762 k0_t63 (BitVec.ofNat 32 (16 + 16 * r.val))) a + S16.size a ≤ S8192.size a
  k0_off763_inb : ∀ k0_t63 : Fin k0_t63_loop.trips, ∀ (r : Fin 2), ∀ a, (k0_off763 k0_t63 (BitVec.ofNat 32 (32 + 16 * r.val))) a + S16.size a ≤ S8192.size a
  k0_off764_inb : ∀ k0_t63 : Fin k0_t63_loop.trips, ∀ (r : Fin 2), ∀ a, (k0_off764 k0_t63 (BitVec.ofNat 32 (48 + 16 * r.val))) a + S16.size a ≤ S8192.size a
  k0_off765_inb : ∀ k0_t63 : Fin k0_t63_loop.trips, ∀ (r : Fin 2), ∀ a, (k0_off765 k0_t63 (BitVec.ofNat 32 (64 + 16 * r.val))) a + S16.size a ≤ S8192.size a
  k0_off766_inb : ∀ k0_t63 : Fin k0_t63_loop.trips, ∀ (r : Fin 2), ∀ a, (k0_off766 k0_t63 (BitVec.ofNat 32 (80 + 16 * r.val))) a + S16.size a ≤ S8192.size a
  k0_off767_inb : ∀ k0_t63 : Fin k0_t63_loop.trips, ∀ (r : Fin 2), ∀ a, (k0_off767 k0_t63 (BitVec.ofNat 32 (96 + 16 * r.val))) a + S16.size a ≤ S8192.size a
  k0_off768_inb : ∀ k0_t63 : Fin k0_t63_loop.trips, ∀ (r : Fin 2), ∀ a, (k0_off768 k0_t63 (BitVec.ofNat 32 (112 + 16 * r.val))) a + S16.size a ≤ S8192.size a
  k0_off769_inb : ∀ k0_t63 : Fin k0_t63_loop.trips, ∀ (r : Fin 2), ∀ a, (k0_off769 k0_t63 (BitVec.ofNat 32 (128 + 16 * r.val))) a + S16.size a ≤ S8192.size a
  k0_off770_inb : ∀ k0_t63 : Fin k0_t63_loop.trips, ∀ (r : Fin 2), ∀ a, (k0_off770 k0_t63 (BitVec.ofNat 32 (144 + 16 * r.val))) a + S16.size a ≤ S8192.size a
  k0_off771_inb : ∀ k0_t63 : Fin k0_t63_loop.trips, ∀ (r : Fin 2), ∀ a, (k0_off771 k0_t63 (BitVec.ofNat 32 (160 + 16 * r.val))) a + S16.size a ≤ S8192.size a
  k0_off772_inb : ∀ k0_t63 : Fin k0_t63_loop.trips, ∀ (r : Fin 2), ∀ a, (k0_off772 k0_t63 (BitVec.ofNat 32 (176 + 16 * r.val))) a + S16.size a ≤ S8192.size a
  k0_off773_inb : ∀ k0_t63 : Fin k0_t63_loop.trips, ∀ (r : Fin 2), ∀ a, (k0_off773 k0_t63 (BitVec.ofNat 32 (192 + 16 * r.val))) a + S16.size a ≤ S8192.size a
  k0_off774_inb : ∀ k0_t63 : Fin k0_t63_loop.trips, ∀ (r : Fin 2), ∀ a, (k0_off774 k0_t63 (BitVec.ofNat 32 (208 + 16 * r.val))) a + S16.size a ≤ S8192.size a
  k0_off775_inb : ∀ k0_t63 : Fin k0_t63_loop.trips, ∀ (r : Fin 2), ∀ a, (k0_off775 k0_t63 (BitVec.ofNat 32 (224 + 16 * r.val))) a + S16.size a ≤ S8192.size a
  k0_off776_inb : ∀ k0_t63 : Fin k0_t63_loop.trips, ∀ a, (k0_off776 k0_t63) a + S16.size a ≤ S8192.size a
  k0_off777_inb : ∀ (i : grid0.Coords) (k0_t61 : Fin (k0_t61_loop i).trips), ∀ a, (k0_off777 i k0_t61) a + S1x8192.size a ≤ S936x16384.size a
  k0_t64_ok : ∀ i : grid0.Coords, (k0_t64_loop i).OK
  k0_off778_inb : ∀ (i : grid0.Coords) (k0_t64 : Fin (k0_t64_loop i).trips), ∀ a, (k0_off778 i k0_t64) a + S1x100000.size a ≤ S36x100000.size a
  k0_t65_ok : k0_t65_loop.OK
  k0_off779_inb : ∀ k0_t65 : Fin k0_t65_loop.trips, ∀ a, (k0_off779 k0_t65) a + S16.size a ≤ S8192.size a
  k0_off780_inb : ∀ k0_t65 : Fin k0_t65_loop.trips, ∀ (r : Fin 2), ∀ a, (k0_off780 k0_t65 (BitVec.ofNat 32 (16 * r.val))) a + S16.size a ≤ S8192.size a
  k0_off781_inb : ∀ k0_t65 : Fin k0_t65_loop.trips, ∀ (r : Fin 2), ∀ a, (k0_off781 k0_t65 (BitVec.ofNat 32 (16 + 16 * r.val))) a + S16.size a ≤ S8192.size a
  k0_off782_inb : ∀ k0_t65 : Fin k0_t65_loop.trips, ∀ (r : Fin 2), ∀ a, (k0_off782 k0_t65 (BitVec.ofNat 32 (32 + 16 * r.val))) a + S16.size a ≤ S8192.size a
  k0_off783_inb : ∀ k0_t65 : Fin k0_t65_loop.trips, ∀ (r : Fin 2), ∀ a, (k0_off783 k0_t65 (BitVec.ofNat 32 (48 + 16 * r.val))) a + S16.size a ≤ S8192.size a
  k0_off784_inb : ∀ k0_t65 : Fin k0_t65_loop.trips, ∀ (r : Fin 2), ∀ a, (k0_off784 k0_t65 (BitVec.ofNat 32 (64 + 16 * r.val))) a + S16.size a ≤ S8192.size a
  k0_off785_inb : ∀ k0_t65 : Fin k0_t65_loop.trips, ∀ (r : Fin 2), ∀ a, (k0_off785 k0_t65 (BitVec.ofNat 32 (80 + 16 * r.val))) a + S16.size a ≤ S8192.size a
  k0_off786_inb : ∀ k0_t65 : Fin k0_t65_loop.trips, ∀ (r : Fin 2), ∀ a, (k0_off786 k0_t65 (BitVec.ofNat 32 (96 + 16 * r.val))) a + S16.size a ≤ S8192.size a
  k0_off787_inb : ∀ k0_t65 : Fin k0_t65_loop.trips, ∀ (r : Fin 2), ∀ a, (k0_off787 k0_t65 (BitVec.ofNat 32 (112 + 16 * r.val))) a + S16.size a ≤ S8192.size a
  k0_off788_inb : ∀ k0_t65 : Fin k0_t65_loop.trips, ∀ (r : Fin 2), ∀ a, (k0_off788 k0_t65 (BitVec.ofNat 32 (128 + 16 * r.val))) a + S16.size a ≤ S8192.size a
  k0_off789_inb : ∀ k0_t65 : Fin k0_t65_loop.trips, ∀ (r : Fin 2), ∀ a, (k0_off789 k0_t65 (BitVec.ofNat 32 (144 + 16 * r.val))) a + S16.size a ≤ S8192.size a
  k0_off790_inb : ∀ k0_t65 : Fin k0_t65_loop.trips, ∀ (r : Fin 2), ∀ a, (k0_off790 k0_t65 (BitVec.ofNat 32 (160 + 16 * r.val))) a + S16.size a ≤ S8192.size a
  k0_off791_inb : ∀ k0_t65 : Fin k0_t65_loop.trips, ∀ (r : Fin 2), ∀ a, (k0_off791 k0_t65 (BitVec.ofNat 32 (176 + 16 * r.val))) a + S16.size a ≤ S8192.size a
  k0_off792_inb : ∀ k0_t65 : Fin k0_t65_loop.trips, ∀ (r : Fin 2), ∀ a, (k0_off792 k0_t65 (BitVec.ofNat 32 (192 + 16 * r.val))) a + S16.size a ≤ S8192.size a
  k0_off793_inb : ∀ k0_t65 : Fin k0_t65_loop.trips, ∀ (r : Fin 2), ∀ a, (k0_off793 k0_t65 (BitVec.ofNat 32 (208 + 16 * r.val))) a + S16.size a ≤ S8192.size a
  k0_off794_inb : ∀ k0_t65 : Fin k0_t65_loop.trips, ∀ (r : Fin 2), ∀ a, (k0_off794 k0_t65 (BitVec.ofNat 32 (224 + 16 * r.val))) a + S16.size a ≤ S8192.size a
  k0_off795_inb : ∀ k0_t65 : Fin k0_t65_loop.trips, ∀ a, (k0_off795 k0_t65) a + S16.size a ≤ S8192.size a
  k0_off796_inb : ∀ (i : grid0.Coords) (k0_t64 : Fin (k0_t64_loop i).trips), ∀ a, (k0_off796 i k0_t64) a + S1x8192.size a ≤ S936x16384.size a
  k0_t66_ok : k0_t66_loop.OK
  k0_off797_inb : ∀ k0_t66 : Fin k0_t66_loop.trips, ∀ a, (k0_off797 k0_t66) a + S16.size a ≤ S8192.size a
  k0_off798_inb : ∀ k0_t66 : Fin k0_t66_loop.trips, ∀ (r : Fin 2), ∀ a, (k0_off798 k0_t66 (BitVec.ofNat 32 (16 * r.val))) a + S16.size a ≤ S8192.size a
  k0_off799_inb : ∀ k0_t66 : Fin k0_t66_loop.trips, ∀ (r : Fin 2), ∀ a, (k0_off799 k0_t66 (BitVec.ofNat 32 (16 + 16 * r.val))) a + S16.size a ≤ S8192.size a
  k0_off800_inb : ∀ k0_t66 : Fin k0_t66_loop.trips, ∀ (r : Fin 2), ∀ a, (k0_off800 k0_t66 (BitVec.ofNat 32 (32 + 16 * r.val))) a + S16.size a ≤ S8192.size a
  k0_off801_inb : ∀ k0_t66 : Fin k0_t66_loop.trips, ∀ (r : Fin 2), ∀ a, (k0_off801 k0_t66 (BitVec.ofNat 32 (48 + 16 * r.val))) a + S16.size a ≤ S8192.size a
  k0_off802_inb : ∀ k0_t66 : Fin k0_t66_loop.trips, ∀ (r : Fin 2), ∀ a, (k0_off802 k0_t66 (BitVec.ofNat 32 (64 + 16 * r.val))) a + S16.size a ≤ S8192.size a
  k0_off803_inb : ∀ k0_t66 : Fin k0_t66_loop.trips, ∀ (r : Fin 2), ∀ a, (k0_off803 k0_t66 (BitVec.ofNat 32 (80 + 16 * r.val))) a + S16.size a ≤ S8192.size a
  k0_off804_inb : ∀ k0_t66 : Fin k0_t66_loop.trips, ∀ (r : Fin 2), ∀ a, (k0_off804 k0_t66 (BitVec.ofNat 32 (96 + 16 * r.val))) a + S16.size a ≤ S8192.size a
  k0_off805_inb : ∀ k0_t66 : Fin k0_t66_loop.trips, ∀ (r : Fin 2), ∀ a, (k0_off805 k0_t66 (BitVec.ofNat 32 (112 + 16 * r.val))) a + S16.size a ≤ S8192.size a
  k0_off806_inb : ∀ k0_t66 : Fin k0_t66_loop.trips, ∀ (r : Fin 2), ∀ a, (k0_off806 k0_t66 (BitVec.ofNat 32 (128 + 16 * r.val))) a + S16.size a ≤ S8192.size a
  k0_off807_inb : ∀ k0_t66 : Fin k0_t66_loop.trips, ∀ (r : Fin 2), ∀ a, (k0_off807 k0_t66 (BitVec.ofNat 32 (144 + 16 * r.val))) a + S16.size a ≤ S8192.size a
  k0_off808_inb : ∀ k0_t66 : Fin k0_t66_loop.trips, ∀ (r : Fin 2), ∀ a, (k0_off808 k0_t66 (BitVec.ofNat 32 (160 + 16 * r.val))) a + S16.size a ≤ S8192.size a
  k0_off809_inb : ∀ k0_t66 : Fin k0_t66_loop.trips, ∀ (r : Fin 2), ∀ a, (k0_off809 k0_t66 (BitVec.ofNat 32 (176 + 16 * r.val))) a + S16.size a ≤ S8192.size a
  k0_off810_inb : ∀ k0_t66 : Fin k0_t66_loop.trips, ∀ (r : Fin 2), ∀ a, (k0_off810 k0_t66 (BitVec.ofNat 32 (192 + 16 * r.val))) a + S16.size a ≤ S8192.size a
  k0_off811_inb : ∀ k0_t66 : Fin k0_t66_loop.trips, ∀ (r : Fin 2), ∀ a, (k0_off811 k0_t66 (BitVec.ofNat 32 (208 + 16 * r.val))) a + S16.size a ≤ S8192.size a
  k0_off812_inb : ∀ k0_t66 : Fin k0_t66_loop.trips, ∀ (r : Fin 2), ∀ a, (k0_off812 k0_t66 (BitVec.ofNat 32 (224 + 16 * r.val))) a + S16.size a ≤ S8192.size a
  k0_off813_inb : ∀ k0_t66 : Fin k0_t66_loop.trips, ∀ a, (k0_off813 k0_t66) a + S16.size a ≤ S8192.size a
  k0_off814_inb : ∀ (i : grid0.Coords) (k0_t64 : Fin (k0_t64_loop i).trips), ∀ a, (k0_off814 i k0_t64) a + S1x8192.size a ≤ S936x16384.size a
  k0_t67_ok : ∀ i : grid0.Coords, (k0_t67_loop i).OK
  k0_off815_inb : ∀ (i : grid0.Coords) (k0_t67 : Fin (k0_t67_loop i).trips), ∀ a, (k0_off815 i k0_t67) a + S1x100000.size a ≤ S36x100000.size a
  k0_t68_ok : k0_t68_loop.OK
  k0_off816_inb : ∀ k0_t68 : Fin k0_t68_loop.trips, ∀ a, (k0_off816 k0_t68) a + S16.size a ≤ S8192.size a
  k0_off817_inb : ∀ k0_t68 : Fin k0_t68_loop.trips, ∀ (r : Fin 2), ∀ a, (k0_off817 k0_t68 (BitVec.ofNat 32 (16 * r.val))) a + S16.size a ≤ S8192.size a
  k0_off818_inb : ∀ k0_t68 : Fin k0_t68_loop.trips, ∀ (r : Fin 2), ∀ a, (k0_off818 k0_t68 (BitVec.ofNat 32 (16 + 16 * r.val))) a + S16.size a ≤ S8192.size a
  k0_off819_inb : ∀ k0_t68 : Fin k0_t68_loop.trips, ∀ (r : Fin 2), ∀ a, (k0_off819 k0_t68 (BitVec.ofNat 32 (32 + 16 * r.val))) a + S16.size a ≤ S8192.size a
  k0_off820_inb : ∀ k0_t68 : Fin k0_t68_loop.trips, ∀ (r : Fin 2), ∀ a, (k0_off820 k0_t68 (BitVec.ofNat 32 (48 + 16 * r.val))) a + S16.size a ≤ S8192.size a
  k0_off821_inb : ∀ k0_t68 : Fin k0_t68_loop.trips, ∀ (r : Fin 2), ∀ a, (k0_off821 k0_t68 (BitVec.ofNat 32 (64 + 16 * r.val))) a + S16.size a ≤ S8192.size a
  k0_off822_inb : ∀ k0_t68 : Fin k0_t68_loop.trips, ∀ (r : Fin 2), ∀ a, (k0_off822 k0_t68 (BitVec.ofNat 32 (80 + 16 * r.val))) a + S16.size a ≤ S8192.size a
  k0_off823_inb : ∀ k0_t68 : Fin k0_t68_loop.trips, ∀ (r : Fin 2), ∀ a, (k0_off823 k0_t68 (BitVec.ofNat 32 (96 + 16 * r.val))) a + S16.size a ≤ S8192.size a
  k0_off824_inb : ∀ k0_t68 : Fin k0_t68_loop.trips, ∀ (r : Fin 2), ∀ a, (k0_off824 k0_t68 (BitVec.ofNat 32 (112 + 16 * r.val))) a + S16.size a ≤ S8192.size a
  k0_off825_inb : ∀ k0_t68 : Fin k0_t68_loop.trips, ∀ (r : Fin 2), ∀ a, (k0_off825 k0_t68 (BitVec.ofNat 32 (128 + 16 * r.val))) a + S16.size a ≤ S8192.size a
  k0_off826_inb : ∀ k0_t68 : Fin k0_t68_loop.trips, ∀ (r : Fin 2), ∀ a, (k0_off826 k0_t68 (BitVec.ofNat 32 (144 + 16 * r.val))) a + S16.size a ≤ S8192.size a
  k0_off827_inb : ∀ k0_t68 : Fin k0_t68_loop.trips, ∀ (r : Fin 2), ∀ a, (k0_off827 k0_t68 (BitVec.ofNat 32 (160 + 16 * r.val))) a + S16.size a ≤ S8192.size a
  k0_off828_inb : ∀ k0_t68 : Fin k0_t68_loop.trips, ∀ (r : Fin 2), ∀ a, (k0_off828 k0_t68 (BitVec.ofNat 32 (176 + 16 * r.val))) a + S16.size a ≤ S8192.size a
  k0_off829_inb : ∀ k0_t68 : Fin k0_t68_loop.trips, ∀ (r : Fin 2), ∀ a, (k0_off829 k0_t68 (BitVec.ofNat 32 (192 + 16 * r.val))) a + S16.size a ≤ S8192.size a
  k0_off830_inb : ∀ k0_t68 : Fin k0_t68_loop.trips, ∀ (r : Fin 2), ∀ a, (k0_off830 k0_t68 (BitVec.ofNat 32 (208 + 16 * r.val))) a + S16.size a ≤ S8192.size a
  k0_off831_inb : ∀ k0_t68 : Fin k0_t68_loop.trips, ∀ (r : Fin 2), ∀ a, (k0_off831 k0_t68 (BitVec.ofNat 32 (224 + 16 * r.val))) a + S16.size a ≤ S8192.size a
  k0_off832_inb : ∀ k0_t68 : Fin k0_t68_loop.trips, ∀ a, (k0_off832 k0_t68) a + S16.size a ≤ S8192.size a
  k0_off833_inb : ∀ (i : grid0.Coords) (k0_t67 : Fin (k0_t67_loop i).trips), ∀ a, (k0_off833 i k0_t67) a + S1x8192.size a ≤ S936x16384.size a
  k0_t69_ok : k0_t69_loop.OK
  k0_off834_inb : ∀ k0_t69 : Fin k0_t69_loop.trips, ∀ a, (k0_off834 k0_t69) a + S16.size a ≤ S8192.size a
  k0_off835_inb : ∀ k0_t69 : Fin k0_t69_loop.trips, ∀ (r : Fin 2), ∀ a, (k0_off835 k0_t69 (BitVec.ofNat 32 (16 * r.val))) a + S16.size a ≤ S8192.size a
  k0_off836_inb : ∀ k0_t69 : Fin k0_t69_loop.trips, ∀ (r : Fin 2), ∀ a, (k0_off836 k0_t69 (BitVec.ofNat 32 (16 + 16 * r.val))) a + S16.size a ≤ S8192.size a
  k0_off837_inb : ∀ k0_t69 : Fin k0_t69_loop.trips, ∀ (r : Fin 2), ∀ a, (k0_off837 k0_t69 (BitVec.ofNat 32 (32 + 16 * r.val))) a + S16.size a ≤ S8192.size a
  k0_off838_inb : ∀ k0_t69 : Fin k0_t69_loop.trips, ∀ (r : Fin 2), ∀ a, (k0_off838 k0_t69 (BitVec.ofNat 32 (48 + 16 * r.val))) a + S16.size a ≤ S8192.size a
  k0_off839_inb : ∀ k0_t69 : Fin k0_t69_loop.trips, ∀ (r : Fin 2), ∀ a, (k0_off839 k0_t69 (BitVec.ofNat 32 (64 + 16 * r.val))) a + S16.size a ≤ S8192.size a
  k0_off840_inb : ∀ k0_t69 : Fin k0_t69_loop.trips, ∀ (r : Fin 2), ∀ a, (k0_off840 k0_t69 (BitVec.ofNat 32 (80 + 16 * r.val))) a + S16.size a ≤ S8192.size a
  k0_off841_inb : ∀ k0_t69 : Fin k0_t69_loop.trips, ∀ (r : Fin 2), ∀ a, (k0_off841 k0_t69 (BitVec.ofNat 32 (96 + 16 * r.val))) a + S16.size a ≤ S8192.size a
  k0_off842_inb : ∀ k0_t69 : Fin k0_t69_loop.trips, ∀ (r : Fin 2), ∀ a, (k0_off842 k0_t69 (BitVec.ofNat 32 (112 + 16 * r.val))) a + S16.size a ≤ S8192.size a
  k0_off843_inb : ∀ k0_t69 : Fin k0_t69_loop.trips, ∀ (r : Fin 2), ∀ a, (k0_off843 k0_t69 (BitVec.ofNat 32 (128 + 16 * r.val))) a + S16.size a ≤ S8192.size a
  k0_off844_inb : ∀ k0_t69 : Fin k0_t69_loop.trips, ∀ (r : Fin 2), ∀ a, (k0_off844 k0_t69 (BitVec.ofNat 32 (144 + 16 * r.val))) a + S16.size a ≤ S8192.size a
  k0_off845_inb : ∀ k0_t69 : Fin k0_t69_loop.trips, ∀ (r : Fin 2), ∀ a, (k0_off845 k0_t69 (BitVec.ofNat 32 (160 + 16 * r.val))) a + S16.size a ≤ S8192.size a
  k0_off846_inb : ∀ k0_t69 : Fin k0_t69_loop.trips, ∀ (r : Fin 2), ∀ a, (k0_off846 k0_t69 (BitVec.ofNat 32 (176 + 16 * r.val))) a + S16.size a ≤ S8192.size a
  k0_off847_inb : ∀ k0_t69 : Fin k0_t69_loop.trips, ∀ (r : Fin 2), ∀ a, (k0_off847 k0_t69 (BitVec.ofNat 32 (192 + 16 * r.val))) a + S16.size a ≤ S8192.size a
  k0_off848_inb : ∀ k0_t69 : Fin k0_t69_loop.trips, ∀ (r : Fin 2), ∀ a, (k0_off848 k0_t69 (BitVec.ofNat 32 (208 + 16 * r.val))) a + S16.size a ≤ S8192.size a
  k0_off849_inb : ∀ k0_t69 : Fin k0_t69_loop.trips, ∀ (r : Fin 2), ∀ a, (k0_off849 k0_t69 (BitVec.ofNat 32 (224 + 16 * r.val))) a + S16.size a ≤ S8192.size a
  k0_off850_inb : ∀ k0_t69 : Fin k0_t69_loop.trips, ∀ a, (k0_off850 k0_t69) a + S16.size a ≤ S8192.size a
  k0_off851_inb : ∀ (i : grid0.Coords) (k0_t67 : Fin (k0_t67_loop i).trips), ∀ a, (k0_off851 i k0_t67) a + S1x8192.size a ≤ S936x16384.size a
  k0_t70_ok : ∀ i : grid0.Coords, (k0_t70_loop i).OK
  k0_off852_inb : ∀ (i : grid0.Coords) (k0_t70 : Fin (k0_t70_loop i).trips), ∀ a, (k0_off852 i k0_t70) a + S1x100000.size a ≤ S36x100000.size a
  k0_t71_ok : k0_t71_loop.OK
  k0_off853_inb : ∀ k0_t71 : Fin k0_t71_loop.trips, ∀ a, (k0_off853 k0_t71) a + S16.size a ≤ S8192.size a
  k0_off854_inb : ∀ k0_t71 : Fin k0_t71_loop.trips, ∀ (r : Fin 2), ∀ a, (k0_off854 k0_t71 (BitVec.ofNat 32 (16 * r.val))) a + S16.size a ≤ S8192.size a
  k0_off855_inb : ∀ k0_t71 : Fin k0_t71_loop.trips, ∀ (r : Fin 2), ∀ a, (k0_off855 k0_t71 (BitVec.ofNat 32 (16 + 16 * r.val))) a + S16.size a ≤ S8192.size a
  k0_off856_inb : ∀ k0_t71 : Fin k0_t71_loop.trips, ∀ (r : Fin 2), ∀ a, (k0_off856 k0_t71 (BitVec.ofNat 32 (32 + 16 * r.val))) a + S16.size a ≤ S8192.size a
  k0_off857_inb : ∀ k0_t71 : Fin k0_t71_loop.trips, ∀ (r : Fin 2), ∀ a, (k0_off857 k0_t71 (BitVec.ofNat 32 (48 + 16 * r.val))) a + S16.size a ≤ S8192.size a
  k0_off858_inb : ∀ k0_t71 : Fin k0_t71_loop.trips, ∀ (r : Fin 2), ∀ a, (k0_off858 k0_t71 (BitVec.ofNat 32 (64 + 16 * r.val))) a + S16.size a ≤ S8192.size a
  k0_off859_inb : ∀ k0_t71 : Fin k0_t71_loop.trips, ∀ (r : Fin 2), ∀ a, (k0_off859 k0_t71 (BitVec.ofNat 32 (80 + 16 * r.val))) a + S16.size a ≤ S8192.size a
  k0_off860_inb : ∀ k0_t71 : Fin k0_t71_loop.trips, ∀ (r : Fin 2), ∀ a, (k0_off860 k0_t71 (BitVec.ofNat 32 (96 + 16 * r.val))) a + S16.size a ≤ S8192.size a
  k0_off861_inb : ∀ k0_t71 : Fin k0_t71_loop.trips, ∀ (r : Fin 2), ∀ a, (k0_off861 k0_t71 (BitVec.ofNat 32 (112 + 16 * r.val))) a + S16.size a ≤ S8192.size a
  k0_off862_inb : ∀ k0_t71 : Fin k0_t71_loop.trips, ∀ (r : Fin 2), ∀ a, (k0_off862 k0_t71 (BitVec.ofNat 32 (128 + 16 * r.val))) a + S16.size a ≤ S8192.size a
  k0_off863_inb : ∀ k0_t71 : Fin k0_t71_loop.trips, ∀ (r : Fin 2), ∀ a, (k0_off863 k0_t71 (BitVec.ofNat 32 (144 + 16 * r.val))) a + S16.size a ≤ S8192.size a
  k0_off864_inb : ∀ k0_t71 : Fin k0_t71_loop.trips, ∀ (r : Fin 2), ∀ a, (k0_off864 k0_t71 (BitVec.ofNat 32 (160 + 16 * r.val))) a + S16.size a ≤ S8192.size a
  k0_off865_inb : ∀ k0_t71 : Fin k0_t71_loop.trips, ∀ (r : Fin 2), ∀ a, (k0_off865 k0_t71 (BitVec.ofNat 32 (176 + 16 * r.val))) a + S16.size a ≤ S8192.size a
  k0_off866_inb : ∀ k0_t71 : Fin k0_t71_loop.trips, ∀ (r : Fin 2), ∀ a, (k0_off866 k0_t71 (BitVec.ofNat 32 (192 + 16 * r.val))) a + S16.size a ≤ S8192.size a
  k0_off867_inb : ∀ k0_t71 : Fin k0_t71_loop.trips, ∀ (r : Fin 2), ∀ a, (k0_off867 k0_t71 (BitVec.ofNat 32 (208 + 16 * r.val))) a + S16.size a ≤ S8192.size a
  k0_off868_inb : ∀ k0_t71 : Fin k0_t71_loop.trips, ∀ (r : Fin 2), ∀ a, (k0_off868 k0_t71 (BitVec.ofNat 32 (224 + 16 * r.val))) a + S16.size a ≤ S8192.size a
  k0_off869_inb : ∀ k0_t71 : Fin k0_t71_loop.trips, ∀ a, (k0_off869 k0_t71) a + S16.size a ≤ S8192.size a
  k0_off870_inb : ∀ (i : grid0.Coords) (k0_t70 : Fin (k0_t70_loop i).trips), ∀ a, (k0_off870 i k0_t70) a + S1x8192.size a ≤ S936x16384.size a
  k0_t72_ok : k0_t72_loop.OK
  k0_off871_inb : ∀ k0_t72 : Fin k0_t72_loop.trips, ∀ a, (k0_off871 k0_t72) a + S16.size a ≤ S8192.size a
  k0_off872_inb : ∀ k0_t72 : Fin k0_t72_loop.trips, ∀ (r : Fin 2), ∀ a, (k0_off872 k0_t72 (BitVec.ofNat 32 (16 * r.val))) a + S16.size a ≤ S8192.size a
  k0_off873_inb : ∀ k0_t72 : Fin k0_t72_loop.trips, ∀ (r : Fin 2), ∀ a, (k0_off873 k0_t72 (BitVec.ofNat 32 (16 + 16 * r.val))) a + S16.size a ≤ S8192.size a
  k0_off874_inb : ∀ k0_t72 : Fin k0_t72_loop.trips, ∀ (r : Fin 2), ∀ a, (k0_off874 k0_t72 (BitVec.ofNat 32 (32 + 16 * r.val))) a + S16.size a ≤ S8192.size a
  k0_off875_inb : ∀ k0_t72 : Fin k0_t72_loop.trips, ∀ (r : Fin 2), ∀ a, (k0_off875 k0_t72 (BitVec.ofNat 32 (48 + 16 * r.val))) a + S16.size a ≤ S8192.size a
  k0_off876_inb : ∀ k0_t72 : Fin k0_t72_loop.trips, ∀ (r : Fin 2), ∀ a, (k0_off876 k0_t72 (BitVec.ofNat 32 (64 + 16 * r.val))) a + S16.size a ≤ S8192.size a
  k0_off877_inb : ∀ k0_t72 : Fin k0_t72_loop.trips, ∀ (r : Fin 2), ∀ a, (k0_off877 k0_t72 (BitVec.ofNat 32 (80 + 16 * r.val))) a + S16.size a ≤ S8192.size a
  k0_off878_inb : ∀ k0_t72 : Fin k0_t72_loop.trips, ∀ (r : Fin 2), ∀ a, (k0_off878 k0_t72 (BitVec.ofNat 32 (96 + 16 * r.val))) a + S16.size a ≤ S8192.size a
  k0_off879_inb : ∀ k0_t72 : Fin k0_t72_loop.trips, ∀ (r : Fin 2), ∀ a, (k0_off879 k0_t72 (BitVec.ofNat 32 (112 + 16 * r.val))) a + S16.size a ≤ S8192.size a
  k0_off880_inb : ∀ k0_t72 : Fin k0_t72_loop.trips, ∀ (r : Fin 2), ∀ a, (k0_off880 k0_t72 (BitVec.ofNat 32 (128 + 16 * r.val))) a + S16.size a ≤ S8192.size a
  k0_off881_inb : ∀ k0_t72 : Fin k0_t72_loop.trips, ∀ (r : Fin 2), ∀ a, (k0_off881 k0_t72 (BitVec.ofNat 32 (144 + 16 * r.val))) a + S16.size a ≤ S8192.size a
  k0_off882_inb : ∀ k0_t72 : Fin k0_t72_loop.trips, ∀ (r : Fin 2), ∀ a, (k0_off882 k0_t72 (BitVec.ofNat 32 (160 + 16 * r.val))) a + S16.size a ≤ S8192.size a
  k0_off883_inb : ∀ k0_t72 : Fin k0_t72_loop.trips, ∀ (r : Fin 2), ∀ a, (k0_off883 k0_t72 (BitVec.ofNat 32 (176 + 16 * r.val))) a + S16.size a ≤ S8192.size a
  k0_off884_inb : ∀ k0_t72 : Fin k0_t72_loop.trips, ∀ (r : Fin 2), ∀ a, (k0_off884 k0_t72 (BitVec.ofNat 32 (192 + 16 * r.val))) a + S16.size a ≤ S8192.size a
  k0_off885_inb : ∀ k0_t72 : Fin k0_t72_loop.trips, ∀ (r : Fin 2), ∀ a, (k0_off885 k0_t72 (BitVec.ofNat 32 (208 + 16 * r.val))) a + S16.size a ≤ S8192.size a
  k0_off886_inb : ∀ k0_t72 : Fin k0_t72_loop.trips, ∀ (r : Fin 2), ∀ a, (k0_off886 k0_t72 (BitVec.ofNat 32 (224 + 16 * r.val))) a + S16.size a ≤ S8192.size a
  k0_off887_inb : ∀ k0_t72 : Fin k0_t72_loop.trips, ∀ a, (k0_off887 k0_t72) a + S16.size a ≤ S8192.size a
  k0_off888_inb : ∀ (i : grid0.Coords) (k0_t70 : Fin (k0_t70_loop i).trips), ∀ a, (k0_off888 i k0_t70) a + S1x8192.size a ≤ S936x16384.size a
  k0_t73_ok : ∀ i : grid0.Coords, (k0_t73_loop i).OK
  k0_off889_inb : ∀ (i : grid0.Coords) (k0_t73 : Fin (k0_t73_loop i).trips), ∀ a, (k0_off889 i k0_t73) a + S1x100000.size a ≤ S36x100000.size a
  k0_t74_ok : k0_t74_loop.OK
  k0_off890_inb : ∀ k0_t74 : Fin k0_t74_loop.trips, ∀ a, (k0_off890 k0_t74) a + S16.size a ≤ S8192.size a
  k0_off891_inb : ∀ k0_t74 : Fin k0_t74_loop.trips, ∀ (r : Fin 2), ∀ a, (k0_off891 k0_t74 (BitVec.ofNat 32 (16 * r.val))) a + S16.size a ≤ S8192.size a
  k0_off892_inb : ∀ k0_t74 : Fin k0_t74_loop.trips, ∀ (r : Fin 2), ∀ a, (k0_off892 k0_t74 (BitVec.ofNat 32 (16 + 16 * r.val))) a + S16.size a ≤ S8192.size a
  k0_off893_inb : ∀ k0_t74 : Fin k0_t74_loop.trips, ∀ (r : Fin 2), ∀ a, (k0_off893 k0_t74 (BitVec.ofNat 32 (32 + 16 * r.val))) a + S16.size a ≤ S8192.size a
  k0_off894_inb : ∀ k0_t74 : Fin k0_t74_loop.trips, ∀ (r : Fin 2), ∀ a, (k0_off894 k0_t74 (BitVec.ofNat 32 (48 + 16 * r.val))) a + S16.size a ≤ S8192.size a
  k0_off895_inb : ∀ k0_t74 : Fin k0_t74_loop.trips, ∀ (r : Fin 2), ∀ a, (k0_off895 k0_t74 (BitVec.ofNat 32 (64 + 16 * r.val))) a + S16.size a ≤ S8192.size a
  k0_off896_inb : ∀ k0_t74 : Fin k0_t74_loop.trips, ∀ (r : Fin 2), ∀ a, (k0_off896 k0_t74 (BitVec.ofNat 32 (80 + 16 * r.val))) a + S16.size a ≤ S8192.size a
  k0_off897_inb : ∀ k0_t74 : Fin k0_t74_loop.trips, ∀ (r : Fin 2), ∀ a, (k0_off897 k0_t74 (BitVec.ofNat 32 (96 + 16 * r.val))) a + S16.size a ≤ S8192.size a
  k0_off898_inb : ∀ k0_t74 : Fin k0_t74_loop.trips, ∀ (r : Fin 2), ∀ a, (k0_off898 k0_t74 (BitVec.ofNat 32 (112 + 16 * r.val))) a + S16.size a ≤ S8192.size a
  k0_off899_inb : ∀ k0_t74 : Fin k0_t74_loop.trips, ∀ (r : Fin 2), ∀ a, (k0_off899 k0_t74 (BitVec.ofNat 32 (128 + 16 * r.val))) a + S16.size a ≤ S8192.size a
  k0_off900_inb : ∀ k0_t74 : Fin k0_t74_loop.trips, ∀ (r : Fin 2), ∀ a, (k0_off900 k0_t74 (BitVec.ofNat 32 (144 + 16 * r.val))) a + S16.size a ≤ S8192.size a
  k0_off901_inb : ∀ k0_t74 : Fin k0_t74_loop.trips, ∀ (r : Fin 2), ∀ a, (k0_off901 k0_t74 (BitVec.ofNat 32 (160 + 16 * r.val))) a + S16.size a ≤ S8192.size a
  k0_off902_inb : ∀ k0_t74 : Fin k0_t74_loop.trips, ∀ (r : Fin 2), ∀ a, (k0_off902 k0_t74 (BitVec.ofNat 32 (176 + 16 * r.val))) a + S16.size a ≤ S8192.size a
  k0_off903_inb : ∀ k0_t74 : Fin k0_t74_loop.trips, ∀ (r : Fin 2), ∀ a, (k0_off903 k0_t74 (BitVec.ofNat 32 (192 + 16 * r.val))) a + S16.size a ≤ S8192.size a
  k0_off904_inb : ∀ k0_t74 : Fin k0_t74_loop.trips, ∀ (r : Fin 2), ∀ a, (k0_off904 k0_t74 (BitVec.ofNat 32 (208 + 16 * r.val))) a + S16.size a ≤ S8192.size a
  k0_off905_inb : ∀ k0_t74 : Fin k0_t74_loop.trips, ∀ (r : Fin 2), ∀ a, (k0_off905 k0_t74 (BitVec.ofNat 32 (224 + 16 * r.val))) a + S16.size a ≤ S8192.size a
  k0_off906_inb : ∀ k0_t74 : Fin k0_t74_loop.trips, ∀ a, (k0_off906 k0_t74) a + S16.size a ≤ S8192.size a
  k0_off907_inb : ∀ (i : grid0.Coords) (k0_t73 : Fin (k0_t73_loop i).trips), ∀ a, (k0_off907 i k0_t73) a + S1x8192.size a ≤ S936x16384.size a
  k0_t75_ok : k0_t75_loop.OK
  k0_off908_inb : ∀ k0_t75 : Fin k0_t75_loop.trips, ∀ a, (k0_off908 k0_t75) a + S16.size a ≤ S8192.size a
  k0_off909_inb : ∀ k0_t75 : Fin k0_t75_loop.trips, ∀ (r : Fin 2), ∀ a, (k0_off909 k0_t75 (BitVec.ofNat 32 (16 * r.val))) a + S16.size a ≤ S8192.size a
  k0_off910_inb : ∀ k0_t75 : Fin k0_t75_loop.trips, ∀ (r : Fin 2), ∀ a, (k0_off910 k0_t75 (BitVec.ofNat 32 (16 + 16 * r.val))) a + S16.size a ≤ S8192.size a
  k0_off911_inb : ∀ k0_t75 : Fin k0_t75_loop.trips, ∀ (r : Fin 2), ∀ a, (k0_off911 k0_t75 (BitVec.ofNat 32 (32 + 16 * r.val))) a + S16.size a ≤ S8192.size a
  k0_off912_inb : ∀ k0_t75 : Fin k0_t75_loop.trips, ∀ (r : Fin 2), ∀ a, (k0_off912 k0_t75 (BitVec.ofNat 32 (48 + 16 * r.val))) a + S16.size a ≤ S8192.size a
  k0_off913_inb : ∀ k0_t75 : Fin k0_t75_loop.trips, ∀ (r : Fin 2), ∀ a, (k0_off913 k0_t75 (BitVec.ofNat 32 (64 + 16 * r.val))) a + S16.size a ≤ S8192.size a
  k0_off914_inb : ∀ k0_t75 : Fin k0_t75_loop.trips, ∀ (r : Fin 2), ∀ a, (k0_off914 k0_t75 (BitVec.ofNat 32 (80 + 16 * r.val))) a + S16.size a ≤ S8192.size a
  k0_off915_inb : ∀ k0_t75 : Fin k0_t75_loop.trips, ∀ (r : Fin 2), ∀ a, (k0_off915 k0_t75 (BitVec.ofNat 32 (96 + 16 * r.val))) a + S16.size a ≤ S8192.size a
  k0_off916_inb : ∀ k0_t75 : Fin k0_t75_loop.trips, ∀ (r : Fin 2), ∀ a, (k0_off916 k0_t75 (BitVec.ofNat 32 (112 + 16 * r.val))) a + S16.size a ≤ S8192.size a
  k0_off917_inb : ∀ k0_t75 : Fin k0_t75_loop.trips, ∀ (r : Fin 2), ∀ a, (k0_off917 k0_t75 (BitVec.ofNat 32 (128 + 16 * r.val))) a + S16.size a ≤ S8192.size a
  k0_off918_inb : ∀ k0_t75 : Fin k0_t75_loop.trips, ∀ (r : Fin 2), ∀ a, (k0_off918 k0_t75 (BitVec.ofNat 32 (144 + 16 * r.val))) a + S16.size a ≤ S8192.size a
  k0_off919_inb : ∀ k0_t75 : Fin k0_t75_loop.trips, ∀ (r : Fin 2), ∀ a, (k0_off919 k0_t75 (BitVec.ofNat 32 (160 + 16 * r.val))) a + S16.size a ≤ S8192.size a
  k0_off920_inb : ∀ k0_t75 : Fin k0_t75_loop.trips, ∀ (r : Fin 2), ∀ a, (k0_off920 k0_t75 (BitVec.ofNat 32 (176 + 16 * r.val))) a + S16.size a ≤ S8192.size a
  k0_off921_inb : ∀ k0_t75 : Fin k0_t75_loop.trips, ∀ (r : Fin 2), ∀ a, (k0_off921 k0_t75 (BitVec.ofNat 32 (192 + 16 * r.val))) a + S16.size a ≤ S8192.size a
  k0_off922_inb : ∀ k0_t75 : Fin k0_t75_loop.trips, ∀ (r : Fin 2), ∀ a, (k0_off922 k0_t75 (BitVec.ofNat 32 (208 + 16 * r.val))) a + S16.size a ≤ S8192.size a
  k0_off923_inb : ∀ k0_t75 : Fin k0_t75_loop.trips, ∀ (r : Fin 2), ∀ a, (k0_off923 k0_t75 (BitVec.ofNat 32 (224 + 16 * r.val))) a + S16.size a ≤ S8192.size a

class K0.R2.Facts₀ : Prop where
  k0_off924_inb : ∀ k0_t75 : Fin k0_t75_loop.trips, ∀ a, (k0_off924 k0_t75) a + S16.size a ≤ S8192.size a
  k0_off925_inb : ∀ (i : grid0.Coords) (k0_t73 : Fin (k0_t73_loop i).trips), ∀ a, (k0_off925 i k0_t73) a + S1x8192.size a ≤ S936x16384.size a
  k0_t76_ok : ∀ i : grid0.Coords, (k0_t76_loop i).OK
  k0_off926_inb : ∀ (i : grid0.Coords) (k0_t76 : Fin (k0_t76_loop i).trips), ∀ a, (k0_off926 i k0_t76) a + S1x100000.size a ≤ S36x100000.size a
  k0_t77_ok : k0_t77_loop.OK
  k0_off927_inb : ∀ k0_t77 : Fin k0_t77_loop.trips, ∀ a, (k0_off927 k0_t77) a + S16.size a ≤ S8192.size a
  k0_off928_inb : ∀ k0_t77 : Fin k0_t77_loop.trips, ∀ (r : Fin 2), ∀ a, (k0_off928 k0_t77 (BitVec.ofNat 32 (16 * r.val))) a + S16.size a ≤ S8192.size a
  k0_off929_inb : ∀ k0_t77 : Fin k0_t77_loop.trips, ∀ (r : Fin 2), ∀ a, (k0_off929 k0_t77 (BitVec.ofNat 32 (16 + 16 * r.val))) a + S16.size a ≤ S8192.size a
  k0_off930_inb : ∀ k0_t77 : Fin k0_t77_loop.trips, ∀ (r : Fin 2), ∀ a, (k0_off930 k0_t77 (BitVec.ofNat 32 (32 + 16 * r.val))) a + S16.size a ≤ S8192.size a
  k0_off931_inb : ∀ k0_t77 : Fin k0_t77_loop.trips, ∀ (r : Fin 2), ∀ a, (k0_off931 k0_t77 (BitVec.ofNat 32 (48 + 16 * r.val))) a + S16.size a ≤ S8192.size a
  k0_off932_inb : ∀ k0_t77 : Fin k0_t77_loop.trips, ∀ (r : Fin 2), ∀ a, (k0_off932 k0_t77 (BitVec.ofNat 32 (64 + 16 * r.val))) a + S16.size a ≤ S8192.size a
  k0_off933_inb : ∀ k0_t77 : Fin k0_t77_loop.trips, ∀ (r : Fin 2), ∀ a, (k0_off933 k0_t77 (BitVec.ofNat 32 (80 + 16 * r.val))) a + S16.size a ≤ S8192.size a
  k0_off934_inb : ∀ k0_t77 : Fin k0_t77_loop.trips, ∀ (r : Fin 2), ∀ a, (k0_off934 k0_t77 (BitVec.ofNat 32 (96 + 16 * r.val))) a + S16.size a ≤ S8192.size a
  k0_off935_inb : ∀ k0_t77 : Fin k0_t77_loop.trips, ∀ (r : Fin 2), ∀ a, (k0_off935 k0_t77 (BitVec.ofNat 32 (112 + 16 * r.val))) a + S16.size a ≤ S8192.size a
  k0_off936_inb : ∀ k0_t77 : Fin k0_t77_loop.trips, ∀ (r : Fin 2), ∀ a, (k0_off936 k0_t77 (BitVec.ofNat 32 (128 + 16 * r.val))) a + S16.size a ≤ S8192.size a
  k0_off937_inb : ∀ k0_t77 : Fin k0_t77_loop.trips, ∀ (r : Fin 2), ∀ a, (k0_off937 k0_t77 (BitVec.ofNat 32 (144 + 16 * r.val))) a + S16.size a ≤ S8192.size a
  k0_off938_inb : ∀ k0_t77 : Fin k0_t77_loop.trips, ∀ (r : Fin 2), ∀ a, (k0_off938 k0_t77 (BitVec.ofNat 32 (160 + 16 * r.val))) a + S16.size a ≤ S8192.size a
  k0_off939_inb : ∀ k0_t77 : Fin k0_t77_loop.trips, ∀ (r : Fin 2), ∀ a, (k0_off939 k0_t77 (BitVec.ofNat 32 (176 + 16 * r.val))) a + S16.size a ≤ S8192.size a
  k0_off940_inb : ∀ k0_t77 : Fin k0_t77_loop.trips, ∀ (r : Fin 2), ∀ a, (k0_off940 k0_t77 (BitVec.ofNat 32 (192 + 16 * r.val))) a + S16.size a ≤ S8192.size a
  k0_off941_inb : ∀ k0_t77 : Fin k0_t77_loop.trips, ∀ (r : Fin 2), ∀ a, (k0_off941 k0_t77 (BitVec.ofNat 32 (208 + 16 * r.val))) a + S16.size a ≤ S8192.size a
  k0_off942_inb : ∀ k0_t77 : Fin k0_t77_loop.trips, ∀ (r : Fin 2), ∀ a, (k0_off942 k0_t77 (BitVec.ofNat 32 (224 + 16 * r.val))) a + S16.size a ≤ S8192.size a
  k0_off943_inb : ∀ k0_t77 : Fin k0_t77_loop.trips, ∀ a, (k0_off943 k0_t77) a + S16.size a ≤ S8192.size a
  k0_off944_inb : ∀ (i : grid0.Coords) (k0_t76 : Fin (k0_t76_loop i).trips), ∀ a, (k0_off944 i k0_t76) a + S1x8192.size a ≤ S936x16384.size a
  k0_t78_ok : k0_t78_loop.OK
  k0_off945_inb : ∀ k0_t78 : Fin k0_t78_loop.trips, ∀ a, (k0_off945 k0_t78) a + S16.size a ≤ S8192.size a
  k0_off946_inb : ∀ k0_t78 : Fin k0_t78_loop.trips, ∀ (r : Fin 2), ∀ a, (k0_off946 k0_t78 (BitVec.ofNat 32 (16 * r.val))) a + S16.size a ≤ S8192.size a
  k0_off947_inb : ∀ k0_t78 : Fin k0_t78_loop.trips, ∀ (r : Fin 2), ∀ a, (k0_off947 k0_t78 (BitVec.ofNat 32 (16 + 16 * r.val))) a + S16.size a ≤ S8192.size a
  k0_off948_inb : ∀ k0_t78 : Fin k0_t78_loop.trips, ∀ (r : Fin 2), ∀ a, (k0_off948 k0_t78 (BitVec.ofNat 32 (32 + 16 * r.val))) a + S16.size a ≤ S8192.size a
  k0_off949_inb : ∀ k0_t78 : Fin k0_t78_loop.trips, ∀ (r : Fin 2), ∀ a, (k0_off949 k0_t78 (BitVec.ofNat 32 (48 + 16 * r.val))) a + S16.size a ≤ S8192.size a
  k0_off950_inb : ∀ k0_t78 : Fin k0_t78_loop.trips, ∀ (r : Fin 2), ∀ a, (k0_off950 k0_t78 (BitVec.ofNat 32 (64 + 16 * r.val))) a + S16.size a ≤ S8192.size a
  k0_off951_inb : ∀ k0_t78 : Fin k0_t78_loop.trips, ∀ (r : Fin 2), ∀ a, (k0_off951 k0_t78 (BitVec.ofNat 32 (80 + 16 * r.val))) a + S16.size a ≤ S8192.size a
  k0_off952_inb : ∀ k0_t78 : Fin k0_t78_loop.trips, ∀ (r : Fin 2), ∀ a, (k0_off952 k0_t78 (BitVec.ofNat 32 (96 + 16 * r.val))) a + S16.size a ≤ S8192.size a
  k0_off953_inb : ∀ k0_t78 : Fin k0_t78_loop.trips, ∀ (r : Fin 2), ∀ a, (k0_off953 k0_t78 (BitVec.ofNat 32 (112 + 16 * r.val))) a + S16.size a ≤ S8192.size a
  k0_off954_inb : ∀ k0_t78 : Fin k0_t78_loop.trips, ∀ (r : Fin 2), ∀ a, (k0_off954 k0_t78 (BitVec.ofNat 32 (128 + 16 * r.val))) a + S16.size a ≤ S8192.size a
  k0_off955_inb : ∀ k0_t78 : Fin k0_t78_loop.trips, ∀ (r : Fin 2), ∀ a, (k0_off955 k0_t78 (BitVec.ofNat 32 (144 + 16 * r.val))) a + S16.size a ≤ S8192.size a
  k0_off956_inb : ∀ k0_t78 : Fin k0_t78_loop.trips, ∀ (r : Fin 2), ∀ a, (k0_off956 k0_t78 (BitVec.ofNat 32 (160 + 16 * r.val))) a + S16.size a ≤ S8192.size a
  k0_off957_inb : ∀ k0_t78 : Fin k0_t78_loop.trips, ∀ (r : Fin 2), ∀ a, (k0_off957 k0_t78 (BitVec.ofNat 32 (176 + 16 * r.val))) a + S16.size a ≤ S8192.size a
  k0_off958_inb : ∀ k0_t78 : Fin k0_t78_loop.trips, ∀ (r : Fin 2), ∀ a, (k0_off958 k0_t78 (BitVec.ofNat 32 (192 + 16 * r.val))) a + S16.size a ≤ S8192.size a
  k0_off959_inb : ∀ k0_t78 : Fin k0_t78_loop.trips, ∀ (r : Fin 2), ∀ a, (k0_off959 k0_t78 (BitVec.ofNat 32 (208 + 16 * r.val))) a + S16.size a ≤ S8192.size a
  k0_off960_inb : ∀ k0_t78 : Fin k0_t78_loop.trips, ∀ (r : Fin 2), ∀ a, (k0_off960 k0_t78 (BitVec.ofNat 32 (224 + 16 * r.val))) a + S16.size a ≤ S8192.size a
  k0_off961_inb : ∀ k0_t78 : Fin k0_t78_loop.trips, ∀ a, (k0_off961 k0_t78) a + S16.size a ≤ S8192.size a
  k0_off962_inb : ∀ (i : grid0.Coords) (k0_t76 : Fin (k0_t76_loop i).trips), ∀ a, (k0_off962 i k0_t76) a + S1x8192.size a ≤ S936x16384.size a
  k0_t79_ok : ∀ i : grid0.Coords, (k0_t79_loop i).OK
  k0_off963_inb : ∀ (i : grid0.Coords) (k0_t79 : Fin (k0_t79_loop i).trips), ∀ a, (k0_off963 i k0_t79) a + S1x100000.size a ≤ S36x100000.size a
  k0_t80_ok : k0_t80_loop.OK
  k0_off964_inb : ∀ k0_t80 : Fin k0_t80_loop.trips, ∀ a, (k0_off964 k0_t80) a + S16.size a ≤ S8192.size a
  k0_off965_inb : ∀ k0_t80 : Fin k0_t80_loop.trips, ∀ (r : Fin 2), ∀ a, (k0_off965 k0_t80 (BitVec.ofNat 32 (16 * r.val))) a + S16.size a ≤ S8192.size a
  k0_off966_inb : ∀ k0_t80 : Fin k0_t80_loop.trips, ∀ (r : Fin 2), ∀ a, (k0_off966 k0_t80 (BitVec.ofNat 32 (16 + 16 * r.val))) a + S16.size a ≤ S8192.size a
  k0_off967_inb : ∀ k0_t80 : Fin k0_t80_loop.trips, ∀ (r : Fin 2), ∀ a, (k0_off967 k0_t80 (BitVec.ofNat 32 (32 + 16 * r.val))) a + S16.size a ≤ S8192.size a
  k0_off968_inb : ∀ k0_t80 : Fin k0_t80_loop.trips, ∀ (r : Fin 2), ∀ a, (k0_off968 k0_t80 (BitVec.ofNat 32 (48 + 16 * r.val))) a + S16.size a ≤ S8192.size a
  k0_off969_inb : ∀ k0_t80 : Fin k0_t80_loop.trips, ∀ (r : Fin 2), ∀ a, (k0_off969 k0_t80 (BitVec.ofNat 32 (64 + 16 * r.val))) a + S16.size a ≤ S8192.size a
  k0_off970_inb : ∀ k0_t80 : Fin k0_t80_loop.trips, ∀ (r : Fin 2), ∀ a, (k0_off970 k0_t80 (BitVec.ofNat 32 (80 + 16 * r.val))) a + S16.size a ≤ S8192.size a
  k0_off971_inb : ∀ k0_t80 : Fin k0_t80_loop.trips, ∀ (r : Fin 2), ∀ a, (k0_off971 k0_t80 (BitVec.ofNat 32 (96 + 16 * r.val))) a + S16.size a ≤ S8192.size a
  k0_off972_inb : ∀ k0_t80 : Fin k0_t80_loop.trips, ∀ (r : Fin 2), ∀ a, (k0_off972 k0_t80 (BitVec.ofNat 32 (112 + 16 * r.val))) a + S16.size a ≤ S8192.size a
  k0_off973_inb : ∀ k0_t80 : Fin k0_t80_loop.trips, ∀ (r : Fin 2), ∀ a, (k0_off973 k0_t80 (BitVec.ofNat 32 (128 + 16 * r.val))) a + S16.size a ≤ S8192.size a
  k0_off974_inb : ∀ k0_t80 : Fin k0_t80_loop.trips, ∀ (r : Fin 2), ∀ a, (k0_off974 k0_t80 (BitVec.ofNat 32 (144 + 16 * r.val))) a + S16.size a ≤ S8192.size a
  k0_off975_inb : ∀ k0_t80 : Fin k0_t80_loop.trips, ∀ (r : Fin 2), ∀ a, (k0_off975 k0_t80 (BitVec.ofNat 32 (160 + 16 * r.val))) a + S16.size a ≤ S8192.size a
  k0_off976_inb : ∀ k0_t80 : Fin k0_t80_loop.trips, ∀ (r : Fin 2), ∀ a, (k0_off976 k0_t80 (BitVec.ofNat 32 (176 + 16 * r.val))) a + S16.size a ≤ S8192.size a
  k0_off977_inb : ∀ k0_t80 : Fin k0_t80_loop.trips, ∀ (r : Fin 2), ∀ a, (k0_off977 k0_t80 (BitVec.ofNat 32 (192 + 16 * r.val))) a + S16.size a ≤ S8192.size a
  k0_off978_inb : ∀ k0_t80 : Fin k0_t80_loop.trips, ∀ (r : Fin 2), ∀ a, (k0_off978 k0_t80 (BitVec.ofNat 32 (208 + 16 * r.val))) a + S16.size a ≤ S8192.size a
  k0_off979_inb : ∀ k0_t80 : Fin k0_t80_loop.trips, ∀ (r : Fin 2), ∀ a, (k0_off979 k0_t80 (BitVec.ofNat 32 (224 + 16 * r.val))) a + S16.size a ≤ S8192.size a
  k0_off980_inb : ∀ k0_t80 : Fin k0_t80_loop.trips, ∀ a, (k0_off980 k0_t80) a + S16.size a ≤ S8192.size a
  k0_off981_inb : ∀ (i : grid0.Coords) (k0_t79 : Fin (k0_t79_loop i).trips), ∀ a, (k0_off981 i k0_t79) a + S1x8192.size a ≤ S936x16384.size a
  k0_t81_ok : k0_t81_loop.OK
  k0_off982_inb : ∀ k0_t81 : Fin k0_t81_loop.trips, ∀ a, (k0_off982 k0_t81) a + S16.size a ≤ S8192.size a
  k0_off983_inb : ∀ k0_t81 : Fin k0_t81_loop.trips, ∀ (r : Fin 2), ∀ a, (k0_off983 k0_t81 (BitVec.ofNat 32 (16 * r.val))) a + S16.size a ≤ S8192.size a
  k0_off984_inb : ∀ k0_t81 : Fin k0_t81_loop.trips, ∀ (r : Fin 2), ∀ a, (k0_off984 k0_t81 (BitVec.ofNat 32 (16 + 16 * r.val))) a + S16.size a ≤ S8192.size a
  k0_off985_inb : ∀ k0_t81 : Fin k0_t81_loop.trips, ∀ (r : Fin 2), ∀ a, (k0_off985 k0_t81 (BitVec.ofNat 32 (32 + 16 * r.val))) a + S16.size a ≤ S8192.size a
  k0_off986_inb : ∀ k0_t81 : Fin k0_t81_loop.trips, ∀ (r : Fin 2), ∀ a, (k0_off986 k0_t81 (BitVec.ofNat 32 (48 + 16 * r.val))) a + S16.size a ≤ S8192.size a
  k0_off987_inb : ∀ k0_t81 : Fin k0_t81_loop.trips, ∀ (r : Fin 2), ∀ a, (k0_off987 k0_t81 (BitVec.ofNat 32 (64 + 16 * r.val))) a + S16.size a ≤ S8192.size a
  k0_off988_inb : ∀ k0_t81 : Fin k0_t81_loop.trips, ∀ (r : Fin 2), ∀ a, (k0_off988 k0_t81 (BitVec.ofNat 32 (80 + 16 * r.val))) a + S16.size a ≤ S8192.size a
  k0_off989_inb : ∀ k0_t81 : Fin k0_t81_loop.trips, ∀ (r : Fin 2), ∀ a, (k0_off989 k0_t81 (BitVec.ofNat 32 (96 + 16 * r.val))) a + S16.size a ≤ S8192.size a
  k0_off990_inb : ∀ k0_t81 : Fin k0_t81_loop.trips, ∀ (r : Fin 2), ∀ a, (k0_off990 k0_t81 (BitVec.ofNat 32 (112 + 16 * r.val))) a + S16.size a ≤ S8192.size a
  k0_off991_inb : ∀ k0_t81 : Fin k0_t81_loop.trips, ∀ (r : Fin 2), ∀ a, (k0_off991 k0_t81 (BitVec.ofNat 32 (128 + 16 * r.val))) a + S16.size a ≤ S8192.size a
  k0_off992_inb : ∀ k0_t81 : Fin k0_t81_loop.trips, ∀ (r : Fin 2), ∀ a, (k0_off992 k0_t81 (BitVec.ofNat 32 (144 + 16 * r.val))) a + S16.size a ≤ S8192.size a
  k0_off993_inb : ∀ k0_t81 : Fin k0_t81_loop.trips, ∀ (r : Fin 2), ∀ a, (k0_off993 k0_t81 (BitVec.ofNat 32 (160 + 16 * r.val))) a + S16.size a ≤ S8192.size a
  k0_off994_inb : ∀ k0_t81 : Fin k0_t81_loop.trips, ∀ (r : Fin 2), ∀ a, (k0_off994 k0_t81 (BitVec.ofNat 32 (176 + 16 * r.val))) a + S16.size a ≤ S8192.size a
  k0_off995_inb : ∀ k0_t81 : Fin k0_t81_loop.trips, ∀ (r : Fin 2), ∀ a, (k0_off995 k0_t81 (BitVec.ofNat 32 (192 + 16 * r.val))) a + S16.size a ≤ S8192.size a
  k0_off996_inb : ∀ k0_t81 : Fin k0_t81_loop.trips, ∀ (r : Fin 2), ∀ a, (k0_off996 k0_t81 (BitVec.ofNat 32 (208 + 16 * r.val))) a + S16.size a ≤ S8192.size a
  k0_off997_inb : ∀ k0_t81 : Fin k0_t81_loop.trips, ∀ (r : Fin 2), ∀ a, (k0_off997 k0_t81 (BitVec.ofNat 32 (224 + 16 * r.val))) a + S16.size a ≤ S8192.size a
  k0_off998_inb : ∀ k0_t81 : Fin k0_t81_loop.trips, ∀ a, (k0_off998 k0_t81) a + S16.size a ≤ S8192.size a
  k0_off999_inb : ∀ (i : grid0.Coords) (k0_t79 : Fin (k0_t79_loop i).trips), ∀ a, (k0_off999 i k0_t79) a + S1x8192.size a ≤ S936x16384.size a
  k0_t82_ok : ∀ i : grid0.Coords, (k0_t82_loop i).OK
  k0_off1000_inb : ∀ (i : grid0.Coords) (k0_t82 : Fin (k0_t82_loop i).trips), ∀ a, (k0_off1000 i k0_t82) a + S1x100000.size a ≤ S36x100000.size a
  k0_t83_ok : k0_t83_loop.OK
  k0_off1001_inb : ∀ k0_t83 : Fin k0_t83_loop.trips, ∀ a, (k0_off1001 k0_t83) a + S16.size a ≤ S8192.size a
  k0_off1002_inb : ∀ k0_t83 : Fin k0_t83_loop.trips, ∀ (r : Fin 2), ∀ a, (k0_off1002 k0_t83 (BitVec.ofNat 32 (16 * r.val))) a + S16.size a ≤ S8192.size a
  k0_off1003_inb : ∀ k0_t83 : Fin k0_t83_loop.trips, ∀ (r : Fin 2), ∀ a, (k0_off1003 k0_t83 (BitVec.ofNat 32 (16 + 16 * r.val))) a + S16.size a ≤ S8192.size a
  k0_off1004_inb : ∀ k0_t83 : Fin k0_t83_loop.trips, ∀ (r : Fin 2), ∀ a, (k0_off1004 k0_t83 (BitVec.ofNat 32 (32 + 16 * r.val))) a + S16.size a ≤ S8192.size a
  k0_off1005_inb : ∀ k0_t83 : Fin k0_t83_loop.trips, ∀ (r : Fin 2), ∀ a, (k0_off1005 k0_t83 (BitVec.ofNat 32 (48 + 16 * r.val))) a + S16.size a ≤ S8192.size a
  k0_off1006_inb : ∀ k0_t83 : Fin k0_t83_loop.trips, ∀ (r : Fin 2), ∀ a, (k0_off1006 k0_t83 (BitVec.ofNat 32 (64 + 16 * r.val))) a + S16.size a ≤ S8192.size a
  k0_off1007_inb : ∀ k0_t83 : Fin k0_t83_loop.trips, ∀ (r : Fin 2), ∀ a, (k0_off1007 k0_t83 (BitVec.ofNat 32 (80 + 16 * r.val))) a + S16.size a ≤ S8192.size a
  k0_off1008_inb : ∀ k0_t83 : Fin k0_t83_loop.trips, ∀ (r : Fin 2), ∀ a, (k0_off1008 k0_t83 (BitVec.ofNat 32 (96 + 16 * r.val))) a + S16.size a ≤ S8192.size a
  k0_off1009_inb : ∀ k0_t83 : Fin k0_t83_loop.trips, ∀ (r : Fin 2), ∀ a, (k0_off1009 k0_t83 (BitVec.ofNat 32 (112 + 16 * r.val))) a + S16.size a ≤ S8192.size a
  k0_off1010_inb : ∀ k0_t83 : Fin k0_t83_loop.trips, ∀ (r : Fin 2), ∀ a, (k0_off1010 k0_t83 (BitVec.ofNat 32 (128 + 16 * r.val))) a + S16.size a ≤ S8192.size a
  k0_off1011_inb : ∀ k0_t83 : Fin k0_t83_loop.trips, ∀ (r : Fin 2), ∀ a, (k0_off1011 k0_t83 (BitVec.ofNat 32 (144 + 16 * r.val))) a + S16.size a ≤ S8192.size a
  k0_off1012_inb : ∀ k0_t83 : Fin k0_t83_loop.trips, ∀ (r : Fin 2), ∀ a, (k0_off1012 k0_t83 (BitVec.ofNat 32 (160 + 16 * r.val))) a + S16.size a ≤ S8192.size a
  k0_off1013_inb : ∀ k0_t83 : Fin k0_t83_loop.trips, ∀ (r : Fin 2), ∀ a, (k0_off1013 k0_t83 (BitVec.ofNat 32 (176 + 16 * r.val))) a + S16.size a ≤ S8192.size a
  k0_off1014_inb : ∀ k0_t83 : Fin k0_t83_loop.trips, ∀ (r : Fin 2), ∀ a, (k0_off1014 k0_t83 (BitVec.ofNat 32 (192 + 16 * r.val))) a + S16.size a ≤ S8192.size a
  k0_off1015_inb : ∀ k0_t83 : Fin k0_t83_loop.trips, ∀ (r : Fin 2), ∀ a, (k0_off1015 k0_t83 (BitVec.ofNat 32 (208 + 16 * r.val))) a + S16.size a ≤ S8192.size a
  k0_off1016_inb : ∀ k0_t83 : Fin k0_t83_loop.trips, ∀ (r : Fin 2), ∀ a, (k0_off1016 k0_t83 (BitVec.ofNat 32 (224 + 16 * r.val))) a + S16.size a ≤ S8192.size a
  k0_off1017_inb : ∀ k0_t83 : Fin k0_t83_loop.trips, ∀ a, (k0_off1017 k0_t83) a + S16.size a ≤ S8192.size a
  k0_off1018_inb : ∀ (i : grid0.Coords) (k0_t82 : Fin (k0_t82_loop i).trips), ∀ a, (k0_off1018 i k0_t82) a + S1x8192.size a ≤ S936x16384.size a
  k0_t84_ok : k0_t84_loop.OK
  k0_off1019_inb : ∀ k0_t84 : Fin k0_t84_loop.trips, ∀ a, (k0_off1019 k0_t84) a + S16.size a ≤ S8192.size a
  k0_off1020_inb : ∀ k0_t84 : Fin k0_t84_loop.trips, ∀ (r : Fin 2), ∀ a, (k0_off1020 k0_t84 (BitVec.ofNat 32 (16 * r.val))) a + S16.size a ≤ S8192.size a
  k0_off1021_inb : ∀ k0_t84 : Fin k0_t84_loop.trips, ∀ (r : Fin 2), ∀ a, (k0_off1021 k0_t84 (BitVec.ofNat 32 (16 + 16 * r.val))) a + S16.size a ≤ S8192.size a
  k0_off1022_inb : ∀ k0_t84 : Fin k0_t84_loop.trips, ∀ (r : Fin 2), ∀ a, (k0_off1022 k0_t84 (BitVec.ofNat 32 (32 + 16 * r.val))) a + S16.size a ≤ S8192.size a
  k0_off1023_inb : ∀ k0_t84 : Fin k0_t84_loop.trips, ∀ (r : Fin 2), ∀ a, (k0_off1023 k0_t84 (BitVec.ofNat 32 (48 + 16 * r.val))) a + S16.size a ≤ S8192.size a
  k0_off1024_inb : ∀ k0_t84 : Fin k0_t84_loop.trips, ∀ (r : Fin 2), ∀ a, (k0_off1024 k0_t84 (BitVec.ofNat 32 (64 + 16 * r.val))) a + S16.size a ≤ S8192.size a
  k0_off1025_inb : ∀ k0_t84 : Fin k0_t84_loop.trips, ∀ (r : Fin 2), ∀ a, (k0_off1025 k0_t84 (BitVec.ofNat 32 (80 + 16 * r.val))) a + S16.size a ≤ S8192.size a
  k0_off1026_inb : ∀ k0_t84 : Fin k0_t84_loop.trips, ∀ (r : Fin 2), ∀ a, (k0_off1026 k0_t84 (BitVec.ofNat 32 (96 + 16 * r.val))) a + S16.size a ≤ S8192.size a
  k0_off1027_inb : ∀ k0_t84 : Fin k0_t84_loop.trips, ∀ (r : Fin 2), ∀ a, (k0_off1027 k0_t84 (BitVec.ofNat 32 (112 + 16 * r.val))) a + S16.size a ≤ S8192.size a
  k0_off1028_inb : ∀ k0_t84 : Fin k0_t84_loop.trips, ∀ (r : Fin 2), ∀ a, (k0_off1028 k0_t84 (BitVec.ofNat 32 (128 + 16 * r.val))) a + S16.size a ≤ S8192.size a
  k0_off1029_inb : ∀ k0_t84 : Fin k0_t84_loop.trips, ∀ (r : Fin 2), ∀ a, (k0_off1029 k0_t84 (BitVec.ofNat 32 (144 + 16 * r.val))) a + S16.size a ≤ S8192.size a
  k0_off1030_inb : ∀ k0_t84 : Fin k0_t84_loop.trips, ∀ (r : Fin 2), ∀ a, (k0_off1030 k0_t84 (BitVec.ofNat 32 (160 + 16 * r.val))) a + S16.size a ≤ S8192.size a
  k0_off1031_inb : ∀ k0_t84 : Fin k0_t84_loop.trips, ∀ (r : Fin 2), ∀ a, (k0_off1031 k0_t84 (BitVec.ofNat 32 (176 + 16 * r.val))) a + S16.size a ≤ S8192.size a
  k0_off1032_inb : ∀ k0_t84 : Fin k0_t84_loop.trips, ∀ (r : Fin 2), ∀ a, (k0_off1032 k0_t84 (BitVec.ofNat 32 (192 + 16 * r.val))) a + S16.size a ≤ S8192.size a
  k0_off1033_inb : ∀ k0_t84 : Fin k0_t84_loop.trips, ∀ (r : Fin 2), ∀ a, (k0_off1033 k0_t84 (BitVec.ofNat 32 (208 + 16 * r.val))) a + S16.size a ≤ S8192.size a
  k0_off1034_inb : ∀ k0_t84 : Fin k0_t84_loop.trips, ∀ (r : Fin 2), ∀ a, (k0_off1034 k0_t84 (BitVec.ofNat 32 (224 + 16 * r.val))) a + S16.size a ≤ S8192.size a
  k0_off1035_inb : ∀ k0_t84 : Fin k0_t84_loop.trips, ∀ a, (k0_off1035 k0_t84) a + S16.size a ≤ S8192.size a
  k0_off1036_inb : ∀ (i : grid0.Coords) (k0_t82 : Fin (k0_t82_loop i).trips), ∀ a, (k0_off1036 i k0_t82) a + S1x8192.size a ≤ S936x16384.size a
  k0_t85_ok : ∀ i : grid0.Coords, (k0_t85_loop i).OK
  k0_off1037_inb : ∀ (i : grid0.Coords) (k0_t85 : Fin (k0_t85_loop i).trips), ∀ a, (k0_off1037 i k0_t85) a + S1x100000.size a ≤ S36x100000.size a
  k0_t86_ok : k0_t86_loop.OK
  k0_off1038_inb : ∀ k0_t86 : Fin k0_t86_loop.trips, ∀ a, (k0_off1038 k0_t86) a + S16.size a ≤ S8192.size a
  k0_off1039_inb : ∀ k0_t86 : Fin k0_t86_loop.trips, ∀ (r : Fin 2), ∀ a, (k0_off1039 k0_t86 (BitVec.ofNat 32 (16 * r.val))) a + S16.size a ≤ S8192.size a
  k0_off1040_inb : ∀ k0_t86 : Fin k0_t86_loop.trips, ∀ (r : Fin 2), ∀ a, (k0_off1040 k0_t86 (BitVec.ofNat 32 (16 + 16 * r.val))) a + S16.size a ≤ S8192.size a
  k0_off1041_inb : ∀ k0_t86 : Fin k0_t86_loop.trips, ∀ (r : Fin 2), ∀ a, (k0_off1041 k0_t86 (BitVec.ofNat 32 (32 + 16 * r.val))) a + S16.size a ≤ S8192.size a
  k0_off1042_inb : ∀ k0_t86 : Fin k0_t86_loop.trips, ∀ (r : Fin 2), ∀ a, (k0_off1042 k0_t86 (BitVec.ofNat 32 (48 + 16 * r.val))) a + S16.size a ≤ S8192.size a
  k0_off1043_inb : ∀ k0_t86 : Fin k0_t86_loop.trips, ∀ (r : Fin 2), ∀ a, (k0_off1043 k0_t86 (BitVec.ofNat 32 (64 + 16 * r.val))) a + S16.size a ≤ S8192.size a
  k0_off1044_inb : ∀ k0_t86 : Fin k0_t86_loop.trips, ∀ (r : Fin 2), ∀ a, (k0_off1044 k0_t86 (BitVec.ofNat 32 (80 + 16 * r.val))) a + S16.size a ≤ S8192.size a
  k0_off1045_inb : ∀ k0_t86 : Fin k0_t86_loop.trips, ∀ (r : Fin 2), ∀ a, (k0_off1045 k0_t86 (BitVec.ofNat 32 (96 + 16 * r.val))) a + S16.size a ≤ S8192.size a
  k0_off1046_inb : ∀ k0_t86 : Fin k0_t86_loop.trips, ∀ (r : Fin 2), ∀ a, (k0_off1046 k0_t86 (BitVec.ofNat 32 (112 + 16 * r.val))) a + S16.size a ≤ S8192.size a
  k0_off1047_inb : ∀ k0_t86 : Fin k0_t86_loop.trips, ∀ (r : Fin 2), ∀ a, (k0_off1047 k0_t86 (BitVec.ofNat 32 (128 + 16 * r.val))) a + S16.size a ≤ S8192.size a
  k0_off1048_inb : ∀ k0_t86 : Fin k0_t86_loop.trips, ∀ (r : Fin 2), ∀ a, (k0_off1048 k0_t86 (BitVec.ofNat 32 (144 + 16 * r.val))) a + S16.size a ≤ S8192.size a
  k0_off1049_inb : ∀ k0_t86 : Fin k0_t86_loop.trips, ∀ (r : Fin 2), ∀ a, (k0_off1049 k0_t86 (BitVec.ofNat 32 (160 + 16 * r.val))) a + S16.size a ≤ S8192.size a
  k0_off1050_inb : ∀ k0_t86 : Fin k0_t86_loop.trips, ∀ (r : Fin 2), ∀ a, (k0_off1050 k0_t86 (BitVec.ofNat 32 (176 + 16 * r.val))) a + S16.size a ≤ S8192.size a
  k0_off1051_inb : ∀ k0_t86 : Fin k0_t86_loop.trips, ∀ (r : Fin 2), ∀ a, (k0_off1051 k0_t86 (BitVec.ofNat 32 (192 + 16 * r.val))) a + S16.size a ≤ S8192.size a
  k0_off1052_inb : ∀ k0_t86 : Fin k0_t86_loop.trips, ∀ (r : Fin 2), ∀ a, (k0_off1052 k0_t86 (BitVec.ofNat 32 (208 + 16 * r.val))) a + S16.size a ≤ S8192.size a
  k0_off1053_inb : ∀ k0_t86 : Fin k0_t86_loop.trips, ∀ (r : Fin 2), ∀ a, (k0_off1053 k0_t86 (BitVec.ofNat 32 (224 + 16 * r.val))) a + S16.size a ≤ S8192.size a
  k0_off1054_inb : ∀ k0_t86 : Fin k0_t86_loop.trips, ∀ a, (k0_off1054 k0_t86) a + S16.size a ≤ S8192.size a
  k0_off1055_inb : ∀ (i : grid0.Coords) (k0_t85 : Fin (k0_t85_loop i).trips), ∀ a, (k0_off1055 i k0_t85) a + S1x8192.size a ≤ S936x16384.size a
  k0_t87_ok : k0_t87_loop.OK
  k0_off1056_inb : ∀ k0_t87 : Fin k0_t87_loop.trips, ∀ a, (k0_off1056 k0_t87) a + S16.size a ≤ S8192.size a
  k0_off1057_inb : ∀ k0_t87 : Fin k0_t87_loop.trips, ∀ (r : Fin 2), ∀ a, (k0_off1057 k0_t87 (BitVec.ofNat 32 (16 * r.val))) a + S16.size a ≤ S8192.size a
  k0_off1058_inb : ∀ k0_t87 : Fin k0_t87_loop.trips, ∀ (r : Fin 2), ∀ a, (k0_off1058 k0_t87 (BitVec.ofNat 32 (16 + 16 * r.val))) a + S16.size a ≤ S8192.size a
  k0_off1059_inb : ∀ k0_t87 : Fin k0_t87_loop.trips, ∀ (r : Fin 2), ∀ a, (k0_off1059 k0_t87 (BitVec.ofNat 32 (32 + 16 * r.val))) a + S16.size a ≤ S8192.size a
  k0_off1060_inb : ∀ k0_t87 : Fin k0_t87_loop.trips, ∀ (r : Fin 2), ∀ a, (k0_off1060 k0_t87 (BitVec.ofNat 32 (48 + 16 * r.val))) a + S16.size a ≤ S8192.size a
  k0_off1061_inb : ∀ k0_t87 : Fin k0_t87_loop.trips, ∀ (r : Fin 2), ∀ a, (k0_off1061 k0_t87 (BitVec.ofNat 32 (64 + 16 * r.val))) a + S16.size a ≤ S8192.size a
  k0_off1062_inb : ∀ k0_t87 : Fin k0_t87_loop.trips, ∀ (r : Fin 2), ∀ a, (k0_off1062 k0_t87 (BitVec.ofNat 32 (80 + 16 * r.val))) a + S16.size a ≤ S8192.size a
  k0_off1063_inb : ∀ k0_t87 : Fin k0_t87_loop.trips, ∀ (r : Fin 2), ∀ a, (k0_off1063 k0_t87 (BitVec.ofNat 32 (96 + 16 * r.val))) a + S16.size a ≤ S8192.size a
  k0_off1064_inb : ∀ k0_t87 : Fin k0_t87_loop.trips, ∀ (r : Fin 2), ∀ a, (k0_off1064 k0_t87 (BitVec.ofNat 32 (112 + 16 * r.val))) a + S16.size a ≤ S8192.size a
  k0_off1065_inb : ∀ k0_t87 : Fin k0_t87_loop.trips, ∀ (r : Fin 2), ∀ a, (k0_off1065 k0_t87 (BitVec.ofNat 32 (128 + 16 * r.val))) a + S16.size a ≤ S8192.size a
  k0_off1066_inb : ∀ k0_t87 : Fin k0_t87_loop.trips, ∀ (r : Fin 2), ∀ a, (k0_off1066 k0_t87 (BitVec.ofNat 32 (144 + 16 * r.val))) a + S16.size a ≤ S8192.size a
  k0_off1067_inb : ∀ k0_t87 : Fin k0_t87_loop.trips, ∀ (r : Fin 2), ∀ a, (k0_off1067 k0_t87 (BitVec.ofNat 32 (160 + 16 * r.val))) a + S16.size a ≤ S8192.size a
  k0_off1068_inb : ∀ k0_t87 : Fin k0_t87_loop.trips, ∀ (r : Fin 2), ∀ a, (k0_off1068 k0_t87 (BitVec.ofNat 32 (176 + 16 * r.val))) a + S16.size a ≤ S8192.size a
  k0_off1069_inb : ∀ k0_t87 : Fin k0_t87_loop.trips, ∀ (r : Fin 2), ∀ a, (k0_off1069 k0_t87 (BitVec.ofNat 32 (192 + 16 * r.val))) a + S16.size a ≤ S8192.size a
  k0_off1070_inb : ∀ k0_t87 : Fin k0_t87_loop.trips, ∀ (r : Fin 2), ∀ a, (k0_off1070 k0_t87 (BitVec.ofNat 32 (208 + 16 * r.val))) a + S16.size a ≤ S8192.size a
  k0_off1071_inb : ∀ k0_t87 : Fin k0_t87_loop.trips, ∀ (r : Fin 2), ∀ a, (k0_off1071 k0_t87 (BitVec.ofNat 32 (224 + 16 * r.val))) a + S16.size a ≤ S8192.size a
  k0_off1072_inb : ∀ k0_t87 : Fin k0_t87_loop.trips, ∀ a, (k0_off1072 k0_t87) a + S16.size a ≤ S8192.size a
  k0_off1073_inb : ∀ (i : grid0.Coords) (k0_t85 : Fin (k0_t85_loop i).trips), ∀ a, (k0_off1073 i k0_t85) a + S1x8192.size a ≤ S936x16384.size a
  k0_t88_ok : ∀ i : grid0.Coords, (k0_t88_loop i).OK
  k0_off1074_inb : ∀ (i : grid0.Coords) (k0_t88 : Fin (k0_t88_loop i).trips), ∀ a, (k0_off1074 i k0_t88) a + S1x100000.size a ≤ S36x100000.size a
  k0_t89_ok : k0_t89_loop.OK
  k0_off1075_inb : ∀ k0_t89 : Fin k0_t89_loop.trips, ∀ a, (k0_off1075 k0_t89) a + S16.size a ≤ S8192.size a
  k0_off1076_inb : ∀ k0_t89 : Fin k0_t89_loop.trips, ∀ (r : Fin 2), ∀ a, (k0_off1076 k0_t89 (BitVec.ofNat 32 (16 * r.val))) a + S16.size a ≤ S8192.size a
  k0_off1077_inb : ∀ k0_t89 : Fin k0_t89_loop.trips, ∀ (r : Fin 2), ∀ a, (k0_off1077 k0_t89 (BitVec.ofNat 32 (16 + 16 * r.val))) a + S16.size a ≤ S8192.size a
  k0_off1078_inb : ∀ k0_t89 : Fin k0_t89_loop.trips, ∀ (r : Fin 2), ∀ a, (k0_off1078 k0_t89 (BitVec.ofNat 32 (32 + 16 * r.val))) a + S16.size a ≤ S8192.size a
  k0_off1079_inb : ∀ k0_t89 : Fin k0_t89_loop.trips, ∀ (r : Fin 2), ∀ a, (k0_off1079 k0_t89 (BitVec.ofNat 32 (48 + 16 * r.val))) a + S16.size a ≤ S8192.size a
  k0_off1080_inb : ∀ k0_t89 : Fin k0_t89_loop.trips, ∀ (r : Fin 2), ∀ a, (k0_off1080 k0_t89 (BitVec.ofNat 32 (64 + 16 * r.val))) a + S16.size a ≤ S8192.size a
  k0_off1081_inb : ∀ k0_t89 : Fin k0_t89_loop.trips, ∀ (r : Fin 2), ∀ a, (k0_off1081 k0_t89 (BitVec.ofNat 32 (80 + 16 * r.val))) a + S16.size a ≤ S8192.size a
  k0_off1082_inb : ∀ k0_t89 : Fin k0_t89_loop.trips, ∀ (r : Fin 2), ∀ a, (k0_off1082 k0_t89 (BitVec.ofNat 32 (96 + 16 * r.val))) a + S16.size a ≤ S8192.size a
  k0_off1083_inb : ∀ k0_t89 : Fin k0_t89_loop.trips, ∀ (r : Fin 2), ∀ a, (k0_off1083 k0_t89 (BitVec.ofNat 32 (112 + 16 * r.val))) a + S16.size a ≤ S8192.size a
  k0_off1084_inb : ∀ k0_t89 : Fin k0_t89_loop.trips, ∀ (r : Fin 2), ∀ a, (k0_off1084 k0_t89 (BitVec.ofNat 32 (128 + 16 * r.val))) a + S16.size a ≤ S8192.size a
  k0_off1085_inb : ∀ k0_t89 : Fin k0_t89_loop.trips, ∀ (r : Fin 2), ∀ a, (k0_off1085 k0_t89 (BitVec.ofNat 32 (144 + 16 * r.val))) a + S16.size a ≤ S8192.size a
  k0_off1086_inb : ∀ k0_t89 : Fin k0_t89_loop.trips, ∀ (r : Fin 2), ∀ a, (k0_off1086 k0_t89 (BitVec.ofNat 32 (160 + 16 * r.val))) a + S16.size a ≤ S8192.size a
  k0_off1087_inb : ∀ k0_t89 : Fin k0_t89_loop.trips, ∀ (r : Fin 2), ∀ a, (k0_off1087 k0_t89 (BitVec.ofNat 32 (176 + 16 * r.val))) a + S16.size a ≤ S8192.size a
  k0_off1088_inb : ∀ k0_t89 : Fin k0_t89_loop.trips, ∀ (r : Fin 2), ∀ a, (k0_off1088 k0_t89 (BitVec.ofNat 32 (192 + 16 * r.val))) a + S16.size a ≤ S8192.size a
  k0_off1089_inb : ∀ k0_t89 : Fin k0_t89_loop.trips, ∀ (r : Fin 2), ∀ a, (k0_off1089 k0_t89 (BitVec.ofNat 32 (208 + 16 * r.val))) a + S16.size a ≤ S8192.size a
  k0_off1090_inb : ∀ k0_t89 : Fin k0_t89_loop.trips, ∀ (r : Fin 2), ∀ a, (k0_off1090 k0_t89 (BitVec.ofNat 32 (224 + 16 * r.val))) a + S16.size a ≤ S8192.size a
  k0_off1091_inb : ∀ k0_t89 : Fin k0_t89_loop.trips, ∀ a, (k0_off1091 k0_t89) a + S16.size a ≤ S8192.size a
  k0_off1092_inb : ∀ (i : grid0.Coords) (k0_t88 : Fin (k0_t88_loop i).trips), ∀ a, (k0_off1092 i k0_t88) a + S1x8192.size a ≤ S936x16384.size a
  k0_t90_ok : k0_t90_loop.OK
  k0_off1093_inb : ∀ k0_t90 : Fin k0_t90_loop.trips, ∀ a, (k0_off1093 k0_t90) a + S16.size a ≤ S8192.size a
  k0_off1094_inb : ∀ k0_t90 : Fin k0_t90_loop.trips, ∀ (r : Fin 2), ∀ a, (k0_off1094 k0_t90 (BitVec.ofNat 32 (16 * r.val))) a + S16.size a ≤ S8192.size a
  k0_off1095_inb : ∀ k0_t90 : Fin k0_t90_loop.trips, ∀ (r : Fin 2), ∀ a, (k0_off1095 k0_t90 (BitVec.ofNat 32 (16 + 16 * r.val))) a + S16.size a ≤ S8192.size a
  k0_off1096_inb : ∀ k0_t90 : Fin k0_t90_loop.trips, ∀ (r : Fin 2), ∀ a, (k0_off1096 k0_t90 (BitVec.ofNat 32 (32 + 16 * r.val))) a + S16.size a ≤ S8192.size a
  k0_off1097_inb : ∀ k0_t90 : Fin k0_t90_loop.trips, ∀ (r : Fin 2), ∀ a, (k0_off1097 k0_t90 (BitVec.ofNat 32 (48 + 16 * r.val))) a + S16.size a ≤ S8192.size a
  k0_off1098_inb : ∀ k0_t90 : Fin k0_t90_loop.trips, ∀ (r : Fin 2), ∀ a, (k0_off1098 k0_t90 (BitVec.ofNat 32 (64 + 16 * r.val))) a + S16.size a ≤ S8192.size a
  k0_off1099_inb : ∀ k0_t90 : Fin k0_t90_loop.trips, ∀ (r : Fin 2), ∀ a, (k0_off1099 k0_t90 (BitVec.ofNat 32 (80 + 16 * r.val))) a + S16.size a ≤ S8192.size a
  k0_off1100_inb : ∀ k0_t90 : Fin k0_t90_loop.trips, ∀ (r : Fin 2), ∀ a, (k0_off1100 k0_t90 (BitVec.ofNat 32 (96 + 16 * r.val))) a + S16.size a ≤ S8192.size a
  k0_off1101_inb : ∀ k0_t90 : Fin k0_t90_loop.trips, ∀ (r : Fin 2), ∀ a, (k0_off1101 k0_t90 (BitVec.ofNat 32 (112 + 16 * r.val))) a + S16.size a ≤ S8192.size a
  k0_off1102_inb : ∀ k0_t90 : Fin k0_t90_loop.trips, ∀ (r : Fin 2), ∀ a, (k0_off1102 k0_t90 (BitVec.ofNat 32 (128 + 16 * r.val))) a + S16.size a ≤ S8192.size a
  k0_off1103_inb : ∀ k0_t90 : Fin k0_t90_loop.trips, ∀ (r : Fin 2), ∀ a, (k0_off1103 k0_t90 (BitVec.ofNat 32 (144 + 16 * r.val))) a + S16.size a ≤ S8192.size a
  k0_off1104_inb : ∀ k0_t90 : Fin k0_t90_loop.trips, ∀ (r : Fin 2), ∀ a, (k0_off1104 k0_t90 (BitVec.ofNat 32 (160 + 16 * r.val))) a + S16.size a ≤ S8192.size a
  k0_off1105_inb : ∀ k0_t90 : Fin k0_t90_loop.trips, ∀ (r : Fin 2), ∀ a, (k0_off1105 k0_t90 (BitVec.ofNat 32 (176 + 16 * r.val))) a + S16.size a ≤ S8192.size a
  k0_off1106_inb : ∀ k0_t90 : Fin k0_t90_loop.trips, ∀ (r : Fin 2), ∀ a, (k0_off1106 k0_t90 (BitVec.ofNat 32 (192 + 16 * r.val))) a + S16.size a ≤ S8192.size a
  k0_off1107_inb : ∀ k0_t90 : Fin k0_t90_loop.trips, ∀ (r : Fin 2), ∀ a, (k0_off1107 k0_t90 (BitVec.ofNat 32 (208 + 16 * r.val))) a + S16.size a ≤ S8192.size a
  k0_off1108_inb : ∀ k0_t90 : Fin k0_t90_loop.trips, ∀ (r : Fin 2), ∀ a, (k0_off1108 k0_t90 (BitVec.ofNat 32 (224 + 16 * r.val))) a + S16.size a ≤ S8192.size a
  k0_off1109_inb : ∀ k0_t90 : Fin k0_t90_loop.trips, ∀ a, (k0_off1109 k0_t90) a + S16.size a ≤ S8192.size a
  k0_off1110_inb : ∀ (i : grid0.Coords) (k0_t88 : Fin (k0_t88_loop i).trips), ∀ a, (k0_off1110 i k0_t88) a + S1x8192.size a ≤ S936x16384.size a
  k0_t91_ok : ∀ i : grid0.Coords, (k0_t91_loop i).OK
  k0_off1111_inb : ∀ (i : grid0.Coords) (k0_t91 : Fin (k0_t91_loop i).trips), ∀ a, (k0_off1111 i k0_t91) a + S1x100000.size a ≤ S36x100000.size a
  k0_t92_ok : k0_t92_loop.OK
  k0_off1112_inb : ∀ k0_t92 : Fin k0_t92_loop.trips, ∀ a, (k0_off1112 k0_t92) a + S16.size a ≤ S8192.size a
  k0_off1113_inb : ∀ k0_t92 : Fin k0_t92_loop.trips, ∀ (r : Fin 2), ∀ a, (k0_off1113 k0_t92 (BitVec.ofNat 32 (16 * r.val))) a + S16.size a ≤ S8192.size a
  k0_off1114_inb : ∀ k0_t92 : Fin k0_t92_loop.trips, ∀ (r : Fin 2), ∀ a, (k0_off1114 k0_t92 (BitVec.ofNat 32 (16 + 16 * r.val))) a + S16.size a ≤ S8192.size a
  k0_off1115_inb : ∀ k0_t92 : Fin k0_t92_loop.trips, ∀ (r : Fin 2), ∀ a, (k0_off1115 k0_t92 (BitVec.ofNat 32 (32 + 16 * r.val))) a + S16.size a ≤ S8192.size a
  k0_off1116_inb : ∀ k0_t92 : Fin k0_t92_loop.trips, ∀ (r : Fin 2), ∀ a, (k0_off1116 k0_t92 (BitVec.ofNat 32 (48 + 16 * r.val))) a + S16.size a ≤ S8192.size a
  k0_off1117_inb : ∀ k0_t92 : Fin k0_t92_loop.trips, ∀ (r : Fin 2), ∀ a, (k0_off1117 k0_t92 (BitVec.ofNat 32 (64 + 16 * r.val))) a + S16.size a ≤ S8192.size a
  k0_off1118_inb : ∀ k0_t92 : Fin k0_t92_loop.trips, ∀ (r : Fin 2), ∀ a, (k0_off1118 k0_t92 (BitVec.ofNat 32 (80 + 16 * r.val))) a + S16.size a ≤ S8192.size a
  k0_off1119_inb : ∀ k0_t92 : Fin k0_t92_loop.trips, ∀ (r : Fin 2), ∀ a, (k0_off1119 k0_t92 (BitVec.ofNat 32 (96 + 16 * r.val))) a + S16.size a ≤ S8192.size a
  k0_off1120_inb : ∀ k0_t92 : Fin k0_t92_loop.trips, ∀ (r : Fin 2), ∀ a, (k0_off1120 k0_t92 (BitVec.ofNat 32 (112 + 16 * r.val))) a + S16.size a ≤ S8192.size a
  k0_off1121_inb : ∀ k0_t92 : Fin k0_t92_loop.trips, ∀ (r : Fin 2), ∀ a, (k0_off1121 k0_t92 (BitVec.ofNat 32 (128 + 16 * r.val))) a + S16.size a ≤ S8192.size a
  k0_off1122_inb : ∀ k0_t92 : Fin k0_t92_loop.trips, ∀ (r : Fin 2), ∀ a, (k0_off1122 k0_t92 (BitVec.ofNat 32 (144 + 16 * r.val))) a + S16.size a ≤ S8192.size a
  k0_off1123_inb : ∀ k0_t92 : Fin k0_t92_loop.trips, ∀ (r : Fin 2), ∀ a, (k0_off1123 k0_t92 (BitVec.ofNat 32 (160 + 16 * r.val))) a + S16.size a ≤ S8192.size a
  k0_off1124_inb : ∀ k0_t92 : Fin k0_t92_loop.trips, ∀ (r : Fin 2), ∀ a, (k0_off1124 k0_t92 (BitVec.ofNat 32 (176 + 16 * r.val))) a + S16.size a ≤ S8192.size a
  k0_off1125_inb : ∀ k0_t92 : Fin k0_t92_loop.trips, ∀ (r : Fin 2), ∀ a, (k0_off1125 k0_t92 (BitVec.ofNat 32 (192 + 16 * r.val))) a + S16.size a ≤ S8192.size a
  k0_off1126_inb : ∀ k0_t92 : Fin k0_t92_loop.trips, ∀ (r : Fin 2), ∀ a, (k0_off1126 k0_t92 (BitVec.ofNat 32 (208 + 16 * r.val))) a + S16.size a ≤ S8192.size a
  k0_off1127_inb : ∀ k0_t92 : Fin k0_t92_loop.trips, ∀ (r : Fin 2), ∀ a, (k0_off1127 k0_t92 (BitVec.ofNat 32 (224 + 16 * r.val))) a + S16.size a ≤ S8192.size a
  k0_off1128_inb : ∀ k0_t92 : Fin k0_t92_loop.trips, ∀ a, (k0_off1128 k0_t92) a + S16.size a ≤ S8192.size a
  k0_off1129_inb : ∀ (i : grid0.Coords) (k0_t91 : Fin (k0_t91_loop i).trips), ∀ a, (k0_off1129 i k0_t91) a + S1x8192.size a ≤ S936x16384.size a
  k0_t93_ok : k0_t93_loop.OK
  k0_off1130_inb : ∀ k0_t93 : Fin k0_t93_loop.trips, ∀ a, (k0_off1130 k0_t93) a + S16.size a ≤ S8192.size a
  k0_off1131_inb : ∀ k0_t93 : Fin k0_t93_loop.trips, ∀ (r : Fin 2), ∀ a, (k0_off1131 k0_t93 (BitVec.ofNat 32 (16 * r.val))) a + S16.size a ≤ S8192.size a
  k0_off1132_inb : ∀ k0_t93 : Fin k0_t93_loop.trips, ∀ (r : Fin 2), ∀ a, (k0_off1132 k0_t93 (BitVec.ofNat 32 (16 + 16 * r.val))) a + S16.size a ≤ S8192.size a
  k0_off1133_inb : ∀ k0_t93 : Fin k0_t93_loop.trips, ∀ (r : Fin 2), ∀ a, (k0_off1133 k0_t93 (BitVec.ofNat 32 (32 + 16 * r.val))) a + S16.size a ≤ S8192.size a
  k0_off1134_inb : ∀ k0_t93 : Fin k0_t93_loop.trips, ∀ (r : Fin 2), ∀ a, (k0_off1134 k0_t93 (BitVec.ofNat 32 (48 + 16 * r.val))) a + S16.size a ≤ S8192.size a
  k0_off1135_inb : ∀ k0_t93 : Fin k0_t93_loop.trips, ∀ (r : Fin 2), ∀ a, (k0_off1135 k0_t93 (BitVec.ofNat 32 (64 + 16 * r.val))) a + S16.size a ≤ S8192.size a
  k0_off1136_inb : ∀ k0_t93 : Fin k0_t93_loop.trips, ∀ (r : Fin 2), ∀ a, (k0_off1136 k0_t93 (BitVec.ofNat 32 (80 + 16 * r.val))) a + S16.size a ≤ S8192.size a
  k0_off1137_inb : ∀ k0_t93 : Fin k0_t93_loop.trips, ∀ (r : Fin 2), ∀ a, (k0_off1137 k0_t93 (BitVec.ofNat 32 (96 + 16 * r.val))) a + S16.size a ≤ S8192.size a
  k0_off1138_inb : ∀ k0_t93 : Fin k0_t93_loop.trips, ∀ (r : Fin 2), ∀ a, (k0_off1138 k0_t93 (BitVec.ofNat 32 (112 + 16 * r.val))) a + S16.size a ≤ S8192.size a
  k0_off1139_inb : ∀ k0_t93 : Fin k0_t93_loop.trips, ∀ (r : Fin 2), ∀ a, (k0_off1139 k0_t93 (BitVec.ofNat 32 (128 + 16 * r.val))) a + S16.size a ≤ S8192.size a
  k0_off1140_inb : ∀ k0_t93 : Fin k0_t93_loop.trips, ∀ (r : Fin 2), ∀ a, (k0_off1140 k0_t93 (BitVec.ofNat 32 (144 + 16 * r.val))) a + S16.size a ≤ S8192.size a
  k0_off1141_inb : ∀ k0_t93 : Fin k0_t93_loop.trips, ∀ (r : Fin 2), ∀ a, (k0_off1141 k0_t93 (BitVec.ofNat 32 (160 + 16 * r.val))) a + S16.size a ≤ S8192.size a
  k0_off1142_inb : ∀ k0_t93 : Fin k0_t93_loop.trips, ∀ (r : Fin 2), ∀ a, (k0_off1142 k0_t93 (BitVec.ofNat 32 (176 + 16 * r.val))) a + S16.size a ≤ S8192.size a
  k0_off1143_inb : ∀ k0_t93 : Fin k0_t93_loop.trips, ∀ (r : Fin 2), ∀ a, (k0_off1143 k0_t93 (BitVec.ofNat 32 (192 + 16 * r.val))) a + S16.size a ≤ S8192.size a
  k0_off1144_inb : ∀ k0_t93 : Fin k0_t93_loop.trips, ∀ (r : Fin 2), ∀ a, (k0_off1144 k0_t93 (BitVec.ofNat 32 (208 + 16 * r.val))) a + S16.size a ≤ S8192.size a
  k0_off1145_inb : ∀ k0_t93 : Fin k0_t93_loop.trips, ∀ (r : Fin 2), ∀ a, (k0_off1145 k0_t93 (BitVec.ofNat 32 (224 + 16 * r.val))) a + S16.size a ≤ S8192.size a
  k0_off1146_inb : ∀ k0_t93 : Fin k0_t93_loop.trips, ∀ a, (k0_off1146 k0_t93) a + S16.size a ≤ S8192.size a
  k0_off1147_inb : ∀ (i : grid0.Coords) (k0_t91 : Fin (k0_t91_loop i).trips), ∀ a, (k0_off1147 i k0_t91) a + S1x8192.size a ≤ S936x16384.size a
  k0_t94_ok : ∀ i : grid0.Coords, (k0_t94_loop i).OK
  k0_off1148_inb : ∀ (i : grid0.Coords) (k0_t94 : Fin (k0_t94_loop i).trips), ∀ a, (k0_off1148 i k0_t94) a + S1x100000.size a ≤ S36x100000.size a
  k0_t95_ok : k0_t95_loop.OK
  k0_off1149_inb : ∀ k0_t95 : Fin k0_t95_loop.trips, ∀ a, (k0_off1149 k0_t95) a + S16.size a ≤ S8192.size a
  k0_off1150_inb : ∀ k0_t95 : Fin k0_t95_loop.trips, ∀ (r : Fin 2), ∀ a, (k0_off1150 k0_t95 (BitVec.ofNat 32 (16 * r.val))) a + S16.size a ≤ S8192.size a
  k0_off1151_inb : ∀ k0_t95 : Fin k0_t95_loop.trips, ∀ (r : Fin 2), ∀ a, (k0_off1151 k0_t95 (BitVec.ofNat 32 (16 + 16 * r.val))) a + S16.size a ≤ S8192.size a
  k0_off1152_inb : ∀ k0_t95 : Fin k0_t95_loop.trips, ∀ (r : Fin 2), ∀ a, (k0_off1152 k0_t95 (BitVec.ofNat 32 (32 + 16 * r.val))) a + S16.size a ≤ S8192.size a
  k0_off1153_inb : ∀ k0_t95 : Fin k0_t95_loop.trips, ∀ (r : Fin 2), ∀ a, (k0_off1153 k0_t95 (BitVec.ofNat 32 (48 + 16 * r.val))) a + S16.size a ≤ S8192.size a
  k0_off1154_inb : ∀ k0_t95 : Fin k0_t95_loop.trips, ∀ (r : Fin 2), ∀ a, (k0_off1154 k0_t95 (BitVec.ofNat 32 (64 + 16 * r.val))) a + S16.size a ≤ S8192.size a
  k0_off1155_inb : ∀ k0_t95 : Fin k0_t95_loop.trips, ∀ (r : Fin 2), ∀ a, (k0_off1155 k0_t95 (BitVec.ofNat 32 (80 + 16 * r.val))) a + S16.size a ≤ S8192.size a
  k0_off1156_inb : ∀ k0_t95 : Fin k0_t95_loop.trips, ∀ (r : Fin 2), ∀ a, (k0_off1156 k0_t95 (BitVec.ofNat 32 (96 + 16 * r.val))) a + S16.size a ≤ S8192.size a
  k0_off1157_inb : ∀ k0_t95 : Fin k0_t95_loop.trips, ∀ (r : Fin 2), ∀ a, (k0_off1157 k0_t95 (BitVec.ofNat 32 (112 + 16 * r.val))) a + S16.size a ≤ S8192.size a
  k0_off1158_inb : ∀ k0_t95 : Fin k0_t95_loop.trips, ∀ (r : Fin 2), ∀ a, (k0_off1158 k0_t95 (BitVec.ofNat 32 (128 + 16 * r.val))) a + S16.size a ≤ S8192.size a
  k0_off1159_inb : ∀ k0_t95 : Fin k0_t95_loop.trips, ∀ (r : Fin 2), ∀ a, (k0_off1159 k0_t95 (BitVec.ofNat 32 (144 + 16 * r.val))) a + S16.size a ≤ S8192.size a
  k0_off1160_inb : ∀ k0_t95 : Fin k0_t95_loop.trips, ∀ (r : Fin 2), ∀ a, (k0_off1160 k0_t95 (BitVec.ofNat 32 (160 + 16 * r.val))) a + S16.size a ≤ S8192.size a
  k0_off1161_inb : ∀ k0_t95 : Fin k0_t95_loop.trips, ∀ (r : Fin 2), ∀ a, (k0_off1161 k0_t95 (BitVec.ofNat 32 (176 + 16 * r.val))) a + S16.size a ≤ S8192.size a
  k0_off1162_inb : ∀ k0_t95 : Fin k0_t95_loop.trips, ∀ (r : Fin 2), ∀ a, (k0_off1162 k0_t95 (BitVec.ofNat 32 (192 + 16 * r.val))) a + S16.size a ≤ S8192.size a
  k0_off1163_inb : ∀ k0_t95 : Fin k0_t95_loop.trips, ∀ (r : Fin 2), ∀ a, (k0_off1163 k0_t95 (BitVec.ofNat 32 (208 + 16 * r.val))) a + S16.size a ≤ S8192.size a
  k0_off1164_inb : ∀ k0_t95 : Fin k0_t95_loop.trips, ∀ (r : Fin 2), ∀ a, (k0_off1164 k0_t95 (BitVec.ofNat 32 (224 + 16 * r.val))) a + S16.size a ≤ S8192.size a
  k0_off1165_inb : ∀ k0_t95 : Fin k0_t95_loop.trips, ∀ a, (k0_off1165 k0_t95) a + S16.size a ≤ S8192.size a
  k0_off1166_inb : ∀ (i : grid0.Coords) (k0_t94 : Fin (k0_t94_loop i).trips), ∀ a, (k0_off1166 i k0_t94) a + S1x8192.size a ≤ S936x16384.size a
  k0_t96_ok : k0_t96_loop.OK
  k0_off1167_inb : ∀ k0_t96 : Fin k0_t96_loop.trips, ∀ a, (k0_off1167 k0_t96) a + S16.size a ≤ S8192.size a
  k0_off1168_inb : ∀ k0_t96 : Fin k0_t96_loop.trips, ∀ (r : Fin 2), ∀ a, (k0_off1168 k0_t96 (BitVec.ofNat 32 (16 * r.val))) a + S16.size a ≤ S8192.size a
  k0_off1169_inb : ∀ k0_t96 : Fin k0_t96_loop.trips, ∀ (r : Fin 2), ∀ a, (k0_off1169 k0_t96 (BitVec.ofNat 32 (16 + 16 * r.val))) a + S16.size a ≤ S8192.size a
  k0_off1170_inb : ∀ k0_t96 : Fin k0_t96_loop.trips, ∀ (r : Fin 2), ∀ a, (k0_off1170 k0_t96 (BitVec.ofNat 32 (32 + 16 * r.val))) a + S16.size a ≤ S8192.size a
  k0_off1171_inb : ∀ k0_t96 : Fin k0_t96_loop.trips, ∀ (r : Fin 2), ∀ a, (k0_off1171 k0_t96 (BitVec.ofNat 32 (48 + 16 * r.val))) a + S16.size a ≤ S8192.size a
  k0_off1172_inb : ∀ k0_t96 : Fin k0_t96_loop.trips, ∀ (r : Fin 2), ∀ a, (k0_off1172 k0_t96 (BitVec.ofNat 32 (64 + 16 * r.val))) a + S16.size a ≤ S8192.size a
  k0_off1173_inb : ∀ k0_t96 : Fin k0_t96_loop.trips, ∀ (r : Fin 2), ∀ a, (k0_off1173 k0_t96 (BitVec.ofNat 32 (80 + 16 * r.val))) a + S16.size a ≤ S8192.size a
  k0_off1174_inb : ∀ k0_t96 : Fin k0_t96_loop.trips, ∀ (r : Fin 2), ∀ a, (k0_off1174 k0_t96 (BitVec.ofNat 32 (96 + 16 * r.val))) a + S16.size a ≤ S8192.size a
  k0_off1175_inb : ∀ k0_t96 : Fin k0_t96_loop.trips, ∀ (r : Fin 2), ∀ a, (k0_off1175 k0_t96 (BitVec.ofNat 32 (112 + 16 * r.val))) a + S16.size a ≤ S8192.size a
  k0_off1176_inb : ∀ k0_t96 : Fin k0_t96_loop.trips, ∀ (r : Fin 2), ∀ a, (k0_off1176 k0_t96 (BitVec.ofNat 32 (128 + 16 * r.val))) a + S16.size a ≤ S8192.size a
  k0_off1177_inb : ∀ k0_t96 : Fin k0_t96_loop.trips, ∀ (r : Fin 2), ∀ a, (k0_off1177 k0_t96 (BitVec.ofNat 32 (144 + 16 * r.val))) a + S16.size a ≤ S8192.size a
  k0_off1178_inb : ∀ k0_t96 : Fin k0_t96_loop.trips, ∀ (r : Fin 2), ∀ a, (k0_off1178 k0_t96 (BitVec.ofNat 32 (160 + 16 * r.val))) a + S16.size a ≤ S8192.size a
  k0_off1179_inb : ∀ k0_t96 : Fin k0_t96_loop.trips, ∀ (r : Fin 2), ∀ a, (k0_off1179 k0_t96 (BitVec.ofNat 32 (176 + 16 * r.val))) a + S16.size a ≤ S8192.size a
  k0_off1180_inb : ∀ k0_t96 : Fin k0_t96_loop.trips, ∀ (r : Fin 2), ∀ a, (k0_off1180 k0_t96 (BitVec.ofNat 32 (192 + 16 * r.val))) a + S16.size a ≤ S8192.size a
  k0_off1181_inb : ∀ k0_t96 : Fin k0_t96_loop.trips, ∀ (r : Fin 2), ∀ a, (k0_off1181 k0_t96 (BitVec.ofNat 32 (208 + 16 * r.val))) a + S16.size a ≤ S8192.size a
  k0_off1182_inb : ∀ k0_t96 : Fin k0_t96_loop.trips, ∀ (r : Fin 2), ∀ a, (k0_off1182 k0_t96 (BitVec.ofNat 32 (224 + 16 * r.val))) a + S16.size a ≤ S8192.size a
  k0_off1183_inb : ∀ k0_t96 : Fin k0_t96_loop.trips, ∀ a, (k0_off1183 k0_t96) a + S16.size a ≤ S8192.size a
  k0_off1184_inb : ∀ (i : grid0.Coords) (k0_t94 : Fin (k0_t94_loop i).trips), ∀ a, (k0_off1184 i k0_t94) a + S1x8192.size a ≤ S936x16384.size a
  k0_t97_ok : ∀ i : grid0.Coords, (k0_t97_loop i).OK
  k0_off1185_inb : ∀ (i : grid0.Coords) (k0_t97 : Fin (k0_t97_loop i).trips), ∀ a, (k0_off1185 i k0_t97) a + S1x100000.size a ≤ S36x100000.size a
  k0_t98_ok : k0_t98_loop.OK
  k0_off1186_inb : ∀ k0_t98 : Fin k0_t98_loop.trips, ∀ a, (k0_off1186 k0_t98) a + S16.size a ≤ S8192.size a
  k0_off1187_inb : ∀ k0_t98 : Fin k0_t98_loop.trips, ∀ (r : Fin 2), ∀ a, (k0_off1187 k0_t98 (BitVec.ofNat 32 (16 * r.val))) a + S16.size a ≤ S8192.size a
  k0_off1188_inb : ∀ k0_t98 : Fin k0_t98_loop.trips, ∀ (r : Fin 2), ∀ a, (k0_off1188 k0_t98 (BitVec.ofNat 32 (16 + 16 * r.val))) a + S16.size a ≤ S8192.size a
  k0_off1189_inb : ∀ k0_t98 : Fin k0_t98_loop.trips, ∀ (r : Fin 2), ∀ a, (k0_off1189 k0_t98 (BitVec.ofNat 32 (32 + 16 * r.val))) a + S16.size a ≤ S8192.size a
  k0_off1190_inb : ∀ k0_t98 : Fin k0_t98_loop.trips, ∀ (r : Fin 2), ∀ a, (k0_off1190 k0_t98 (BitVec.ofNat 32 (48 + 16 * r.val))) a + S16.size a ≤ S8192.size a
  k0_off1191_inb : ∀ k0_t98 : Fin k0_t98_loop.trips, ∀ (r : Fin 2), ∀ a, (k0_off1191 k0_t98 (BitVec.ofNat 32 (64 + 16 * r.val))) a + S16.size a ≤ S8192.size a
  k0_off1192_inb : ∀ k0_t98 : Fin k0_t98_loop.trips, ∀ (r : Fin 2), ∀ a, (k0_off1192 k0_t98 (BitVec.ofNat 32 (80 + 16 * r.val))) a + S16.size a ≤ S8192.size a
  k0_off1193_inb : ∀ k0_t98 : Fin k0_t98_loop.trips, ∀ (r : Fin 2), ∀ a, (k0_off1193 k0_t98 (BitVec.ofNat 32 (96 + 16 * r.val))) a + S16.size a ≤ S8192.size a
  k0_off1194_inb : ∀ k0_t98 : Fin k0_t98_loop.trips, ∀ (r : Fin 2), ∀ a, (k0_off1194 k0_t98 (BitVec.ofNat 32 (112 + 16 * r.val))) a + S16.size a ≤ S8192.size a
  k0_off1195_inb : ∀ k0_t98 : Fin k0_t98_loop.trips, ∀ (r : Fin 2), ∀ a, (k0_off1195 k0_t98 (BitVec.ofNat 32 (128 + 16 * r.val))) a + S16.size a ≤ S8192.size a
  k0_off1196_inb : ∀ k0_t98 : Fin k0_t98_loop.trips, ∀ (r : Fin 2), ∀ a, (k0_off1196 k0_t98 (BitVec.ofNat 32 (144 + 16 * r.val))) a + S16.size a ≤ S8192.size a
  k0_off1197_inb : ∀ k0_t98 : Fin k0_t98_loop.trips, ∀ (r : Fin 2), ∀ a, (k0_off1197 k0_t98 (BitVec.ofNat 32 (160 + 16 * r.val))) a + S16.size a ≤ S8192.size a
  k0_off1198_inb : ∀ k0_t98 : Fin k0_t98_loop.trips, ∀ (r : Fin 2), ∀ a, (k0_off1198 k0_t98 (BitVec.ofNat 32 (176 + 16 * r.val))) a + S16.size a ≤ S8192.size a
  k0_off1199_inb : ∀ k0_t98 : Fin k0_t98_loop.trips, ∀ (r : Fin 2), ∀ a, (k0_off1199 k0_t98 (BitVec.ofNat 32 (192 + 16 * r.val))) a + S16.size a ≤ S8192.size a
  k0_off1200_inb : ∀ k0_t98 : Fin k0_t98_loop.trips, ∀ (r : Fin 2), ∀ a, (k0_off1200 k0_t98 (BitVec.ofNat 32 (208 + 16 * r.val))) a + S16.size a ≤ S8192.size a
  k0_off1201_inb : ∀ k0_t98 : Fin k0_t98_loop.trips, ∀ (r : Fin 2), ∀ a, (k0_off1201 k0_t98 (BitVec.ofNat 32 (224 + 16 * r.val))) a + S16.size a ≤ S8192.size a
  k0_off1202_inb : ∀ k0_t98 : Fin k0_t98_loop.trips, ∀ a, (k0_off1202 k0_t98) a + S16.size a ≤ S8192.size a
  k0_off1203_inb : ∀ (i : grid0.Coords) (k0_t97 : Fin (k0_t97_loop i).trips), ∀ a, (k0_off1203 i k0_t97) a + S1x8192.size a ≤ S936x16384.size a
  k0_t99_ok : k0_t99_loop.OK
  k0_off1204_inb : ∀ k0_t99 : Fin k0_t99_loop.trips, ∀ a, (k0_off1204 k0_t99) a + S16.size a ≤ S8192.size a
  k0_off1205_inb : ∀ k0_t99 : Fin k0_t99_loop.trips, ∀ (r : Fin 2), ∀ a, (k0_off1205 k0_t99 (BitVec.ofNat 32 (16 * r.val))) a + S16.size a ≤ S8192.size a
  k0_off1206_inb : ∀ k0_t99 : Fin k0_t99_loop.trips, ∀ (r : Fin 2), ∀ a, (k0_off1206 k0_t99 (BitVec.ofNat 32 (16 + 16 * r.val))) a + S16.size a ≤ S8192.size a
  k0_off1207_inb : ∀ k0_t99 : Fin k0_t99_loop.trips, ∀ (r : Fin 2), ∀ a, (k0_off1207 k0_t99 (BitVec.ofNat 32 (32 + 16 * r.val))) a + S16.size a ≤ S8192.size a
  k0_off1208_inb : ∀ k0_t99 : Fin k0_t99_loop.trips, ∀ (r : Fin 2), ∀ a, (k0_off1208 k0_t99 (BitVec.ofNat 32 (48 + 16 * r.val))) a + S16.size a ≤ S8192.size a
  k0_off1209_inb : ∀ k0_t99 : Fin k0_t99_loop.trips, ∀ (r : Fin 2), ∀ a, (k0_off1209 k0_t99 (BitVec.ofNat 32 (64 + 16 * r.val))) a + S16.size a ≤ S8192.size a
  k0_off1210_inb : ∀ k0_t99 : Fin k0_t99_loop.trips, ∀ (r : Fin 2), ∀ a, (k0_off1210 k0_t99 (BitVec.ofNat 32 (80 + 16 * r.val))) a + S16.size a ≤ S8192.size a
  k0_off1211_inb : ∀ k0_t99 : Fin k0_t99_loop.trips, ∀ (r : Fin 2), ∀ a, (k0_off1211 k0_t99 (BitVec.ofNat 32 (96 + 16 * r.val))) a + S16.size a ≤ S8192.size a
  k0_off1212_inb : ∀ k0_t99 : Fin k0_t99_loop.trips, ∀ (r : Fin 2), ∀ a, (k0_off1212 k0_t99 (BitVec.ofNat 32 (112 + 16 * r.val))) a + S16.size a ≤ S8192.size a
  k0_off1213_inb : ∀ k0_t99 : Fin k0_t99_loop.trips, ∀ (r : Fin 2), ∀ a, (k0_off1213 k0_t99 (BitVec.ofNat 32 (128 + 16 * r.val))) a + S16.size a ≤ S8192.size a
  k0_off1214_inb : ∀ k0_t99 : Fin k0_t99_loop.trips, ∀ (r : Fin 2), ∀ a, (k0_off1214 k0_t99 (BitVec.ofNat 32 (144 + 16 * r.val))) a + S16.size a ≤ S8192.size a
  k0_off1215_inb : ∀ k0_t99 : Fin k0_t99_loop.trips, ∀ (r : Fin 2), ∀ a, (k0_off1215 k0_t99 (BitVec.ofNat 32 (160 + 16 * r.val))) a + S16.size a ≤ S8192.size a
  k0_off1216_inb : ∀ k0_t99 : Fin k0_t99_loop.trips, ∀ (r : Fin 2), ∀ a, (k0_off1216 k0_t99 (BitVec.ofNat 32 (176 + 16 * r.val))) a + S16.size a ≤ S8192.size a
  k0_off1217_inb : ∀ k0_t99 : Fin k0_t99_loop.trips, ∀ (r : Fin 2), ∀ a, (k0_off1217 k0_t99 (BitVec.ofNat 32 (192 + 16 * r.val))) a + S16.size a ≤ S8192.size a
  k0_off1218_inb : ∀ k0_t99 : Fin k0_t99_loop.trips, ∀ (r : Fin 2), ∀ a, (k0_off1218 k0_t99 (BitVec.ofNat 32 (208 + 16 * r.val))) a + S16.size a ≤ S8192.size a
  k0_off1219_inb : ∀ k0_t99 : Fin k0_t99_loop.trips, ∀ (r : Fin 2), ∀ a, (k0_off1219 k0_t99 (BitVec.ofNat 32 (224 + 16 * r.val))) a + S16.size a ≤ S8192.size a
  k0_off1220_inb : ∀ k0_t99 : Fin k0_t99_loop.trips, ∀ a, (k0_off1220 k0_t99) a + S16.size a ≤ S8192.size a
  k0_off1221_inb : ∀ (i : grid0.Coords) (k0_t97 : Fin (k0_t97_loop i).trips), ∀ a, (k0_off1221 i k0_t97) a + S1x8192.size a ≤ S936x16384.size a
  k0_t100_ok : ∀ i : grid0.Coords, (k0_t100_loop i).OK
  k0_off1222_inb : ∀ (i : grid0.Coords) (k0_t100 : Fin (k0_t100_loop i).trips), ∀ a, (k0_off1222 i k0_t100) a + S1x100000.size a ≤ S36x100000.size a
  k0_t101_ok : k0_t101_loop.OK
  k0_off1223_inb : ∀ k0_t101 : Fin k0_t101_loop.trips, ∀ a, (k0_off1223 k0_t101) a + S16.size a ≤ S8192.size a
  k0_off1224_inb : ∀ k0_t101 : Fin k0_t101_loop.trips, ∀ (r : Fin 2), ∀ a, (k0_off1224 k0_t101 (BitVec.ofNat 32 (16 * r.val))) a + S16.size a ≤ S8192.size a
  k0_off1225_inb : ∀ k0_t101 : Fin k0_t101_loop.trips, ∀ (r : Fin 2), ∀ a, (k0_off1225 k0_t101 (BitVec.ofNat 32 (16 + 16 * r.val))) a + S16.size a ≤ S8192.size a
  k0_off1226_inb : ∀ k0_t101 : Fin k0_t101_loop.trips, ∀ (r : Fin 2), ∀ a, (k0_off1226 k0_t101 (BitVec.ofNat 32 (32 + 16 * r.val))) a + S16.size a ≤ S8192.size a
  k0_off1227_inb : ∀ k0_t101 : Fin k0_t101_loop.trips, ∀ (r : Fin 2), ∀ a, (k0_off1227 k0_t101 (BitVec.ofNat 32 (48 + 16 * r.val))) a + S16.size a ≤ S8192.size a
  k0_off1228_inb : ∀ k0_t101 : Fin k0_t101_loop.trips, ∀ (r : Fin 2), ∀ a, (k0_off1228 k0_t101 (BitVec.ofNat 32 (64 + 16 * r.val))) a + S16.size a ≤ S8192.size a
  k0_off1229_inb : ∀ k0_t101 : Fin k0_t101_loop.trips, ∀ (r : Fin 2), ∀ a, (k0_off1229 k0_t101 (BitVec.ofNat 32 (80 + 16 * r.val))) a + S16.size a ≤ S8192.size a
  k0_off1230_inb : ∀ k0_t101 : Fin k0_t101_loop.trips, ∀ (r : Fin 2), ∀ a, (k0_off1230 k0_t101 (BitVec.ofNat 32 (96 + 16 * r.val))) a + S16.size a ≤ S8192.size a
  k0_off1231_inb : ∀ k0_t101 : Fin k0_t101_loop.trips, ∀ (r : Fin 2), ∀ a, (k0_off1231 k0_t101 (BitVec.ofNat 32 (112 + 16 * r.val))) a + S16.size a ≤ S8192.size a
  k0_off1232_inb : ∀ k0_t101 : Fin k0_t101_loop.trips, ∀ (r : Fin 2), ∀ a, (k0_off1232 k0_t101 (BitVec.ofNat 32 (128 + 16 * r.val))) a + S16.size a ≤ S8192.size a
  k0_off1233_inb : ∀ k0_t101 : Fin k0_t101_loop.trips, ∀ (r : Fin 2), ∀ a, (k0_off1233 k0_t101 (BitVec.ofNat 32 (144 + 16 * r.val))) a + S16.size a ≤ S8192.size a
  k0_off1234_inb : ∀ k0_t101 : Fin k0_t101_loop.trips, ∀ (r : Fin 2), ∀ a, (k0_off1234 k0_t101 (BitVec.ofNat 32 (160 + 16 * r.val))) a + S16.size a ≤ S8192.size a
  k0_off1235_inb : ∀ k0_t101 : Fin k0_t101_loop.trips, ∀ (r : Fin 2), ∀ a, (k0_off1235 k0_t101 (BitVec.ofNat 32 (176 + 16 * r.val))) a + S16.size a ≤ S8192.size a
  k0_off1236_inb : ∀ k0_t101 : Fin k0_t101_loop.trips, ∀ (r : Fin 2), ∀ a, (k0_off1236 k0_t101 (BitVec.ofNat 32 (192 + 16 * r.val))) a + S16.size a ≤ S8192.size a
  k0_off1237_inb : ∀ k0_t101 : Fin k0_t101_loop.trips, ∀ (r : Fin 2), ∀ a, (k0_off1237 k0_t101 (BitVec.ofNat 32 (208 + 16 * r.val))) a + S16.size a ≤ S8192.size a
  k0_off1238_inb : ∀ k0_t101 : Fin k0_t101_loop.trips, ∀ (r : Fin 2), ∀ a, (k0_off1238 k0_t101 (BitVec.ofNat 32 (224 + 16 * r.val))) a + S16.size a ≤ S8192.size a
  k0_off1239_inb : ∀ k0_t101 : Fin k0_t101_loop.trips, ∀ a, (k0_off1239 k0_t101) a + S16.size a ≤ S8192.size a
  k0_off1240_inb : ∀ (i : grid0.Coords) (k0_t100 : Fin (k0_t100_loop i).trips), ∀ a, (k0_off1240 i k0_t100) a + S1x8192.size a ≤ S936x16384.size a
  k0_t102_ok : k0_t102_loop.OK
  k0_off1241_inb : ∀ k0_t102 : Fin k0_t102_loop.trips, ∀ a, (k0_off1241 k0_t102) a + S16.size a ≤ S8192.size a
  k0_off1242_inb : ∀ k0_t102 : Fin k0_t102_loop.trips, ∀ (r : Fin 2), ∀ a, (k0_off1242 k0_t102 (BitVec.ofNat 32 (16 * r.val))) a + S16.size a ≤ S8192.size a
  k0_off1243_inb : ∀ k0_t102 : Fin k0_t102_loop.trips, ∀ (r : Fin 2), ∀ a, (k0_off1243 k0_t102 (BitVec.ofNat 32 (16 + 16 * r.val))) a + S16.size a ≤ S8192.size a
  k0_off1244_inb : ∀ k0_t102 : Fin k0_t102_loop.trips, ∀ (r : Fin 2), ∀ a, (k0_off1244 k0_t102 (BitVec.ofNat 32 (32 + 16 * r.val))) a + S16.size a ≤ S8192.size a
  k0_off1245_inb : ∀ k0_t102 : Fin k0_t102_loop.trips, ∀ (r : Fin 2), ∀ a, (k0_off1245 k0_t102 (BitVec.ofNat 32 (48 + 16 * r.val))) a + S16.size a ≤ S8192.size a
  k0_off1246_inb : ∀ k0_t102 : Fin k0_t102_loop.trips, ∀ (r : Fin 2), ∀ a, (k0_off1246 k0_t102 (BitVec.ofNat 32 (64 + 16 * r.val))) a + S16.size a ≤ S8192.size a
  k0_off1247_inb : ∀ k0_t102 : Fin k0_t102_loop.trips, ∀ (r : Fin 2), ∀ a, (k0_off1247 k0_t102 (BitVec.ofNat 32 (80 + 16 * r.val))) a + S16.size a ≤ S8192.size a
  k0_off1248_inb : ∀ k0_t102 : Fin k0_t102_loop.trips, ∀ (r : Fin 2), ∀ a, (k0_off1248 k0_t102 (BitVec.ofNat 32 (96 + 16 * r.val))) a + S16.size a ≤ S8192.size a
  k0_off1249_inb : ∀ k0_t102 : Fin k0_t102_loop.trips, ∀ (r : Fin 2), ∀ a, (k0_off1249 k0_t102 (BitVec.ofNat 32 (112 + 16 * r.val))) a + S16.size a ≤ S8192.size a
  k0_off1250_inb : ∀ k0_t102 : Fin k0_t102_loop.trips, ∀ (r : Fin 2), ∀ a, (k0_off1250 k0_t102 (BitVec.ofNat 32 (128 + 16 * r.val))) a + S16.size a ≤ S8192.size a
  k0_off1251_inb : ∀ k0_t102 : Fin k0_t102_loop.trips, ∀ (r : Fin 2), ∀ a, (k0_off1251 k0_t102 (BitVec.ofNat 32 (144 + 16 * r.val))) a + S16.size a ≤ S8192.size a
  k0_off1252_inb : ∀ k0_t102 : Fin k0_t102_loop.trips, ∀ (r : Fin 2), ∀ a, (k0_off1252 k0_t102 (BitVec.ofNat 32 (160 + 16 * r.val))) a + S16.size a ≤ S8192.size a
  k0_off1253_inb : ∀ k0_t102 : Fin k0_t102_loop.trips, ∀ (r : Fin 2), ∀ a, (k0_off1253 k0_t102 (BitVec.ofNat 32 (176 + 16 * r.val))) a + S16.size a ≤ S8192.size a
  k0_off1254_inb : ∀ k0_t102 : Fin k0_t102_loop.trips, ∀ (r : Fin 2), ∀ a, (k0_off1254 k0_t102 (BitVec.ofNat 32 (192 + 16 * r.val))) a + S16.size a ≤ S8192.size a
  k0_off1255_inb : ∀ k0_t102 : Fin k0_t102_loop.trips, ∀ (r : Fin 2), ∀ a, (k0_off1255 k0_t102 (BitVec.ofNat 32 (208 + 16 * r.val))) a + S16.size a ≤ S8192.size a
  k0_off1256_inb : ∀ k0_t102 : Fin k0_t102_loop.trips, ∀ (r : Fin 2), ∀ a, (k0_off1256 k0_t102 (BitVec.ofNat 32 (224 + 16 * r.val))) a + S16.size a ≤ S8192.size a
  k0_off1257_inb : ∀ k0_t102 : Fin k0_t102_loop.trips, ∀ a, (k0_off1257 k0_t102) a + S16.size a ≤ S8192.size a
  k0_off1258_inb : ∀ (i : grid0.Coords) (k0_t100 : Fin (k0_t100_loop i).trips), ∀ a, (k0_off1258 i k0_t100) a + S1x8192.size a ≤ S936x16384.size a
  k0_t103_ok : ∀ i : grid0.Coords, (k0_t103_loop i).OK
  k0_off1259_inb : ∀ (i : grid0.Coords) (k0_t103 : Fin (k0_t103_loop i).trips), ∀ a, (k0_off1259 i k0_t103) a + S1x100000.size a ≤ S36x100000.size a
  k0_t104_ok : k0_t104_loop.OK
  k0_off1260_inb : ∀ k0_t104 : Fin k0_t104_loop.trips, ∀ a, (k0_off1260 k0_t104) a + S16.size a ≤ S8192.size a
  k0_off1261_inb : ∀ k0_t104 : Fin k0_t104_loop.trips, ∀ (r : Fin 2), ∀ a, (k0_off1261 k0_t104 (BitVec.ofNat 32 (16 * r.val))) a + S16.size a ≤ S8192.size a
  k0_off1262_inb : ∀ k0_t104 : Fin k0_t104_loop.trips, ∀ (r : Fin 2), ∀ a, (k0_off1262 k0_t104 (BitVec.ofNat 32 (16 + 16 * r.val))) a + S16.size a ≤ S8192.size a
  k0_off1263_inb : ∀ k0_t104 : Fin k0_t104_loop.trips, ∀ (r : Fin 2), ∀ a, (k0_off1263 k0_t104 (BitVec.ofNat 32 (32 + 16 * r.val))) a + S16.size a ≤ S8192.size a
  k0_off1264_inb : ∀ k0_t104 : Fin k0_t104_loop.trips, ∀ (r : Fin 2), ∀ a, (k0_off1264 k0_t104 (BitVec.ofNat 32 (48 + 16 * r.val))) a + S16.size a ≤ S8192.size a
  k0_off1265_inb : ∀ k0_t104 : Fin k0_t104_loop.trips, ∀ (r : Fin 2), ∀ a, (k0_off1265 k0_t104 (BitVec.ofNat 32 (64 + 16 * r.val))) a + S16.size a ≤ S8192.size a
  k0_off1266_inb : ∀ k0_t104 : Fin k0_t104_loop.trips, ∀ (r : Fin 2), ∀ a, (k0_off1266 k0_t104 (BitVec.ofNat 32 (80 + 16 * r.val))) a + S16.size a ≤ S8192.size a
  k0_off1267_inb : ∀ k0_t104 : Fin k0_t104_loop.trips, ∀ (r : Fin 2), ∀ a, (k0_off1267 k0_t104 (BitVec.ofNat 32 (96 + 16 * r.val))) a + S16.size a ≤ S8192.size a
  k0_off1268_inb : ∀ k0_t104 : Fin k0_t104_loop.trips, ∀ (r : Fin 2), ∀ a, (k0_off1268 k0_t104 (BitVec.ofNat 32 (112 + 16 * r.val))) a + S16.size a ≤ S8192.size a
  k0_off1269_inb : ∀ k0_t104 : Fin k0_t104_loop.trips, ∀ (r : Fin 2), ∀ a, (k0_off1269 k0_t104 (BitVec.ofNat 32 (128 + 16 * r.val))) a + S16.size a ≤ S8192.size a
  k0_off1270_inb : ∀ k0_t104 : Fin k0_t104_loop.trips, ∀ (r : Fin 2), ∀ a, (k0_off1270 k0_t104 (BitVec.ofNat 32 (144 + 16 * r.val))) a + S16.size a ≤ S8192.size a
  k0_off1271_inb : ∀ k0_t104 : Fin k0_t104_loop.trips, ∀ (r : Fin 2), ∀ a, (k0_off1271 k0_t104 (BitVec.ofNat 32 (160 + 16 * r.val))) a + S16.size a ≤ S8192.size a
  k0_off1272_inb : ∀ k0_t104 : Fin k0_t104_loop.trips, ∀ (r : Fin 2), ∀ a, (k0_off1272 k0_t104 (BitVec.ofNat 32 (176 + 16 * r.val))) a + S16.size a ≤ S8192.size a
  k0_off1273_inb : ∀ k0_t104 : Fin k0_t104_loop.trips, ∀ (r : Fin 2), ∀ a, (k0_off1273 k0_t104 (BitVec.ofNat 32 (192 + 16 * r.val))) a + S16.size a ≤ S8192.size a
  k0_off1274_inb : ∀ k0_t104 : Fin k0_t104_loop.trips, ∀ (r : Fin 2), ∀ a, (k0_off1274 k0_t104 (BitVec.ofNat 32 (208 + 16 * r.val))) a + S16.size a ≤ S8192.size a
  k0_off1275_inb : ∀ k0_t104 : Fin k0_t104_loop.trips, ∀ (r : Fin 2), ∀ a, (k0_off1275 k0_t104 (BitVec.ofNat 32 (224 + 16 * r.val))) a + S16.size a ≤ S8192.size a
  k0_off1276_inb : ∀ k0_t104 : Fin k0_t104_loop.trips, ∀ a, (k0_off1276 k0_t104) a + S16.size a ≤ S8192.size a
  k0_off1277_inb : ∀ (i : grid0.Coords) (k0_t103 : Fin (k0_t103_loop i).trips), ∀ a, (k0_off1277 i k0_t103) a + S1x8192.size a ≤ S936x16384.size a
  k0_t105_ok : k0_t105_loop.OK
  k0_off1278_inb : ∀ k0_t105 : Fin k0_t105_loop.trips, ∀ a, (k0_off1278 k0_t105) a + S16.size a ≤ S8192.size a
  k0_off1279_inb : ∀ k0_t105 : Fin k0_t105_loop.trips, ∀ (r : Fin 2), ∀ a, (k0_off1279 k0_t105 (BitVec.ofNat 32 (16 * r.val))) a + S16.size a ≤ S8192.size a
  k0_off1280_inb : ∀ k0_t105 : Fin k0_t105_loop.trips, ∀ (r : Fin 2), ∀ a, (k0_off1280 k0_t105 (BitVec.ofNat 32 (16 + 16 * r.val))) a + S16.size a ≤ S8192.size a
  k0_off1281_inb : ∀ k0_t105 : Fin k0_t105_loop.trips, ∀ (r : Fin 2), ∀ a, (k0_off1281 k0_t105 (BitVec.ofNat 32 (32 + 16 * r.val))) a + S16.size a ≤ S8192.size a
  k0_off1282_inb : ∀ k0_t105 : Fin k0_t105_loop.trips, ∀ (r : Fin 2), ∀ a, (k0_off1282 k0_t105 (BitVec.ofNat 32 (48 + 16 * r.val))) a + S16.size a ≤ S8192.size a
  k0_off1283_inb : ∀ k0_t105 : Fin k0_t105_loop.trips, ∀ (r : Fin 2), ∀ a, (k0_off1283 k0_t105 (BitVec.ofNat 32 (64 + 16 * r.val))) a + S16.size a ≤ S8192.size a
  k0_off1284_inb : ∀ k0_t105 : Fin k0_t105_loop.trips, ∀ (r : Fin 2), ∀ a, (k0_off1284 k0_t105 (BitVec.ofNat 32 (80 + 16 * r.val))) a + S16.size a ≤ S8192.size a
  k0_off1285_inb : ∀ k0_t105 : Fin k0_t105_loop.trips, ∀ (r : Fin 2), ∀ a, (k0_off1285 k0_t105 (BitVec.ofNat 32 (96 + 16 * r.val))) a + S16.size a ≤ S8192.size a
  k0_off1286_inb : ∀ k0_t105 : Fin k0_t105_loop.trips, ∀ (r : Fin 2), ∀ a, (k0_off1286 k0_t105 (BitVec.ofNat 32 (112 + 16 * r.val))) a + S16.size a ≤ S8192.size a
  k0_off1287_inb : ∀ k0_t105 : Fin k0_t105_loop.trips, ∀ (r : Fin 2), ∀ a, (k0_off1287 k0_t105 (BitVec.ofNat 32 (128 + 16 * r.val))) a + S16.size a ≤ S8192.size a
  k0_off1288_inb : ∀ k0_t105 : Fin k0_t105_loop.trips, ∀ (r : Fin 2), ∀ a, (k0_off1288 k0_t105 (BitVec.ofNat 32 (144 + 16 * r.val))) a + S16.size a ≤ S8192.size a
  k0_off1289_inb : ∀ k0_t105 : Fin k0_t105_loop.trips, ∀ (r : Fin 2), ∀ a, (k0_off1289 k0_t105 (BitVec.ofNat 32 (160 + 16 * r.val))) a + S16.size a ≤ S8192.size a
  k0_off1290_inb : ∀ k0_t105 : Fin k0_t105_loop.trips, ∀ (r : Fin 2), ∀ a, (k0_off1290 k0_t105 (BitVec.ofNat 32 (176 + 16 * r.val))) a + S16.size a ≤ S8192.size a
  k0_off1291_inb : ∀ k0_t105 : Fin k0_t105_loop.trips, ∀ (r : Fin 2), ∀ a, (k0_off1291 k0_t105 (BitVec.ofNat 32 (192 + 16 * r.val))) a + S16.size a ≤ S8192.size a
  k0_off1292_inb : ∀ k0_t105 : Fin k0_t105_loop.trips, ∀ (r : Fin 2), ∀ a, (k0_off1292 k0_t105 (BitVec.ofNat 32 (208 + 16 * r.val))) a + S16.size a ≤ S8192.size a
  k0_off1293_inb : ∀ k0_t105 : Fin k0_t105_loop.trips, ∀ (r : Fin 2), ∀ a, (k0_off1293 k0_t105 (BitVec.ofNat 32 (224 + 16 * r.val))) a + S16.size a ≤ S8192.size a
  k0_off1294_inb : ∀ k0_t105 : Fin k0_t105_loop.trips, ∀ a, (k0_off1294 k0_t105) a + S16.size a ≤ S8192.size a
  k0_off1295_inb : ∀ (i : grid0.Coords) (k0_t103 : Fin (k0_t103_loop i).trips), ∀ a, (k0_off1295 i k0_t103) a + S1x8192.size a ≤ S936x16384.size a
  k0_t106_ok : ∀ i : grid0.Coords, (k0_t106_loop i).OK
  k0_off1296_inb : ∀ (i : grid0.Coords) (k0_t106 : Fin (k0_t106_loop i).trips), ∀ a, (k0_off1296 i k0_t106) a + S1x100000.size a ≤ S36x100000.size a
  k0_t107_ok : k0_t107_loop.OK
  k0_off1297_inb : ∀ k0_t107 : Fin k0_t107_loop.trips, ∀ a, (k0_off1297 k0_t107) a + S16.size a ≤ S8192.size a
  k0_off1298_inb : ∀ k0_t107 : Fin k0_t107_loop.trips, ∀ (r : Fin 2), ∀ a, (k0_off1298 k0_t107 (BitVec.ofNat 32 (16 * r.val))) a + S16.size a ≤ S8192.size a
  k0_off1299_inb : ∀ k0_t107 : Fin k0_t107_loop.trips, ∀ (r : Fin 2), ∀ a, (k0_off1299 k0_t107 (BitVec.ofNat 32 (16 + 16 * r.val))) a + S16.size a ≤ S8192.size a
  k0_off1300_inb : ∀ k0_t107 : Fin k0_t107_loop.trips, ∀ (r : Fin 2), ∀ a, (k0_off1300 k0_t107 (BitVec.ofNat 32 (32 + 16 * r.val))) a + S16.size a ≤ S8192.size a
  k0_off1301_inb : ∀ k0_t107 : Fin k0_t107_loop.trips, ∀ (r : Fin 2), ∀ a, (k0_off1301 k0_t107 (BitVec.ofNat 32 (48 + 16 * r.val))) a + S16.size a ≤ S8192.size a
  k0_off1302_inb : ∀ k0_t107 : Fin k0_t107_loop.trips, ∀ (r : Fin 2), ∀ a, (k0_off1302 k0_t107 (BitVec.ofNat 32 (64 + 16 * r.val))) a + S16.size a ≤ S8192.size a
  k0_off1303_inb : ∀ k0_t107 : Fin k0_t107_loop.trips, ∀ (r : Fin 2), ∀ a, (k0_off1303 k0_t107 (BitVec.ofNat 32 (80 + 16 * r.val))) a + S16.size a ≤ S8192.size a
  k0_off1304_inb : ∀ k0_t107 : Fin k0_t107_loop.trips, ∀ (r : Fin 2), ∀ a, (k0_off1304 k0_t107 (BitVec.ofNat 32 (96 + 16 * r.val))) a + S16.size a ≤ S8192.size a
  k0_off1305_inb : ∀ k0_t107 : Fin k0_t107_loop.trips, ∀ (r : Fin 2), ∀ a, (k0_off1305 k0_t107 (BitVec.ofNat 32 (112 + 16 * r.val))) a + S16.size a ≤ S8192.size a
  k0_off1306_inb : ∀ k0_t107 : Fin k0_t107_loop.trips, ∀ (r : Fin 2), ∀ a, (k0_off1306 k0_t107 (BitVec.ofNat 32 (128 + 16 * r.val))) a + S16.size a ≤ S8192.size a
  k0_off1307_inb : ∀ k0_t107 : Fin k0_t107_loop.trips, ∀ (r : Fin 2), ∀ a, (k0_off1307 k0_t107 (BitVec.ofNat 32 (144 + 16 * r.val))) a + S16.size a ≤ S8192.size a
  k0_off1308_inb : ∀ k0_t107 : Fin k0_t107_loop.trips, ∀ (r : Fin 2), ∀ a, (k0_off1308 k0_t107 (BitVec.ofNat 32 (160 + 16 * r.val))) a + S16.size a ≤ S8192.size a
  k0_off1309_inb : ∀ k0_t107 : Fin k0_t107_loop.trips, ∀ (r : Fin 2), ∀ a, (k0_off1309 k0_t107 (BitVec.ofNat 32 (176 + 16 * r.val))) a + S16.size a ≤ S8192.size a
  k0_off1310_inb : ∀ k0_t107 : Fin k0_t107_loop.trips, ∀ (r : Fin 2), ∀ a, (k0_off1310 k0_t107 (BitVec.ofNat 32 (192 + 16 * r.val))) a + S16.size a ≤ S8192.size a
  k0_off1311_inb : ∀ k0_t107 : Fin k0_t107_loop.trips, ∀ (r : Fin 2), ∀ a, (k0_off1311 k0_t107 (BitVec.ofNat 32 (208 + 16 * r.val))) a + S16.size a ≤ S8192.size a
  k0_off1312_inb : ∀ k0_t107 : Fin k0_t107_loop.trips, ∀ (r : Fin 2), ∀ a, (k0_off1312 k0_t107 (BitVec.ofNat 32 (224 + 16 * r.val))) a + S16.size a ≤ S8192.size a
  k0_off1313_inb : ∀ k0_t107 : Fin k0_t107_loop.trips, ∀ a, (k0_off1313 k0_t107) a + S16.size a ≤ S8192.size a
  k0_off1314_inb : ∀ (i : grid0.Coords) (k0_t106 : Fin (k0_t106_loop i).trips), ∀ a, (k0_off1314 i k0_t106) a + S1x8192.size a ≤ S936x16384.size a
  k0_t108_ok : k0_t108_loop.OK
  k0_off1315_inb : ∀ k0_t108 : Fin k0_t108_loop.trips, ∀ a, (k0_off1315 k0_t108) a + S16.size a ≤ S8192.size a
  k0_off1316_inb : ∀ k0_t108 : Fin k0_t108_loop.trips, ∀ (r : Fin 2), ∀ a, (k0_off1316 k0_t108 (BitVec.ofNat 32 (16 * r.val))) a + S16.size a ≤ S8192.size a
  k0_off1317_inb : ∀ k0_t108 : Fin k0_t108_loop.trips, ∀ (r : Fin 2), ∀ a, (k0_off1317 k0_t108 (BitVec.ofNat 32 (16 + 16 * r.val))) a + S16.size a ≤ S8192.size a
  k0_off1318_inb : ∀ k0_t108 : Fin k0_t108_loop.trips, ∀ (r : Fin 2), ∀ a, (k0_off1318 k0_t108 (BitVec.ofNat 32 (32 + 16 * r.val))) a + S16.size a ≤ S8192.size a
  k0_off1319_inb : ∀ k0_t108 : Fin k0_t108_loop.trips, ∀ (r : Fin 2), ∀ a, (k0_off1319 k0_t108 (BitVec.ofNat 32 (48 + 16 * r.val))) a + S16.size a ≤ S8192.size a
  k0_off1320_inb : ∀ k0_t108 : Fin k0_t108_loop.trips, ∀ (r : Fin 2), ∀ a, (k0_off1320 k0_t108 (BitVec.ofNat 32 (64 + 16 * r.val))) a + S16.size a ≤ S8192.size a
  k0_off1321_inb : ∀ k0_t108 : Fin k0_t108_loop.trips, ∀ (r : Fin 2), ∀ a, (k0_off1321 k0_t108 (BitVec.ofNat 32 (80 + 16 * r.val))) a + S16.size a ≤ S8192.size a
  k0_off1322_inb : ∀ k0_t108 : Fin k0_t108_loop.trips, ∀ (r : Fin 2), ∀ a, (k0_off1322 k0_t108 (BitVec.ofNat 32 (96 + 16 * r.val))) a + S16.size a ≤ S8192.size a
  k0_off1323_inb : ∀ k0_t108 : Fin k0_t108_loop.trips, ∀ (r : Fin 2), ∀ a, (k0_off1323 k0_t108 (BitVec.ofNat 32 (112 + 16 * r.val))) a + S16.size a ≤ S8192.size a
  k0_off1324_inb : ∀ k0_t108 : Fin k0_t108_loop.trips, ∀ (r : Fin 2), ∀ a, (k0_off1324 k0_t108 (BitVec.ofNat 32 (128 + 16 * r.val))) a + S16.size a ≤ S8192.size a
  k0_off1325_inb : ∀ k0_t108 : Fin k0_t108_loop.trips, ∀ (r : Fin 2), ∀ a, (k0_off1325 k0_t108 (BitVec.ofNat 32 (144 + 16 * r.val))) a + S16.size a ≤ S8192.size a
  k0_off1326_inb : ∀ k0_t108 : Fin k0_t108_loop.trips, ∀ (r : Fin 2), ∀ a, (k0_off1326 k0_t108 (BitVec.ofNat 32 (160 + 16 * r.val))) a + S16.size a ≤ S8192.size a
  k0_off1327_inb : ∀ k0_t108 : Fin k0_t108_loop.trips, ∀ (r : Fin 2), ∀ a, (k0_off1327 k0_t108 (BitVec.ofNat 32 (176 + 16 * r.val))) a + S16.size a ≤ S8192.size a
  k0_off1328_inb : ∀ k0_t108 : Fin k0_t108_loop.trips, ∀ (r : Fin 2), ∀ a, (k0_off1328 k0_t108 (BitVec.ofNat 32 (192 + 16 * r.val))) a + S16.size a ≤ S8192.size a
  k0_off1329_inb : ∀ k0_t108 : Fin k0_t108_loop.trips, ∀ (r : Fin 2), ∀ a, (k0_off1329 k0_t108 (BitVec.ofNat 32 (208 + 16 * r.val))) a + S16.size a ≤ S8192.size a
  k0_off1330_inb : ∀ k0_t108 : Fin k0_t108_loop.trips, ∀ (r : Fin 2), ∀ a, (k0_off1330 k0_t108 (BitVec.ofNat 32 (224 + 16 * r.val))) a + S16.size a ≤ S8192.size a
  k0_off1331_inb : ∀ k0_t108 : Fin k0_t108_loop.trips, ∀ a, (k0_off1331 k0_t108) a + S16.size a ≤ S8192.size a
  k0_off1332_inb : ∀ (i : grid0.Coords) (k0_t106 : Fin (k0_t106_loop i).trips), ∀ a, (k0_off1332 i k0_t106) a + S1x8192.size a ≤ S936x16384.size a
  k0_t109_ok : ∀ i : grid0.Coords, (k0_t109_loop i).OK
  k0_off1333_inb : ∀ (i : grid0.Coords) (k0_t109 : Fin (k0_t109_loop i).trips), ∀ a, (k0_off1333 i k0_t109) a + S1x100000.size a ≤ S36x100000.size a
  k0_t110_ok : k0_t110_loop.OK
  k0_off1334_inb : ∀ k0_t110 : Fin k0_t110_loop.trips, ∀ a, (k0_off1334 k0_t110) a + S16.size a ≤ S8192.size a
  k0_off1335_inb : ∀ k0_t110 : Fin k0_t110_loop.trips, ∀ (r : Fin 2), ∀ a, (k0_off1335 k0_t110 (BitVec.ofNat 32 (16 * r.val))) a + S16.size a ≤ S8192.size a
  k0_off1336_inb : ∀ k0_t110 : Fin k0_t110_loop.trips, ∀ (r : Fin 2), ∀ a, (k0_off1336 k0_t110 (BitVec.ofNat 32 (16 + 16 * r.val))) a + S16.size a ≤ S8192.size a
  k0_off1337_inb : ∀ k0_t110 : Fin k0_t110_loop.trips, ∀ (r : Fin 2), ∀ a, (k0_off1337 k0_t110 (BitVec.ofNat 32 (32 + 16 * r.val))) a + S16.size a ≤ S8192.size a
  k0_off1338_inb : ∀ k0_t110 : Fin k0_t110_loop.trips, ∀ (r : Fin 2), ∀ a, (k0_off1338 k0_t110 (BitVec.ofNat 32 (48 + 16 * r.val))) a + S16.size a ≤ S8192.size a
  k0_off1339_inb : ∀ k0_t110 : Fin k0_t110_loop.trips, ∀ (r : Fin 2), ∀ a, (k0_off1339 k0_t110 (BitVec.ofNat 32 (64 + 16 * r.val))) a + S16.size a ≤ S8192.size a
  k0_off1340_inb : ∀ k0_t110 : Fin k0_t110_loop.trips, ∀ (r : Fin 2), ∀ a, (k0_off1340 k0_t110 (BitVec.ofNat 32 (80 + 16 * r.val))) a + S16.size a ≤ S8192.size a
  k0_off1341_inb : ∀ k0_t110 : Fin k0_t110_loop.trips, ∀ (r : Fin 2), ∀ a, (k0_off1341 k0_t110 (BitVec.ofNat 32 (96 + 16 * r.val))) a + S16.size a ≤ S8192.size a
  k0_off1342_inb : ∀ k0_t110 : Fin k0_t110_loop.trips, ∀ (r : Fin 2), ∀ a, (k0_off1342 k0_t110 (BitVec.ofNat 32 (112 + 16 * r.val))) a + S16.size a ≤ S8192.size a
  k0_off1343_inb : ∀ k0_t110 : Fin k0_t110_loop.trips, ∀ (r : Fin 2), ∀ a, (k0_off1343 k0_t110 (BitVec.ofNat 32 (128 + 16 * r.val))) a + S16.size a ≤ S8192.size a
  k0_off1344_inb : ∀ k0_t110 : Fin k0_t110_loop.trips, ∀ (r : Fin 2), ∀ a, (k0_off1344 k0_t110 (BitVec.ofNat 32 (144 + 16 * r.val))) a + S16.size a ≤ S8192.size a
  k0_off1345_inb : ∀ k0_t110 : Fin k0_t110_loop.trips, ∀ (r : Fin 2), ∀ a, (k0_off1345 k0_t110 (BitVec.ofNat 32 (160 + 16 * r.val))) a + S16.size a ≤ S8192.size a
  k0_off1346_inb : ∀ k0_t110 : Fin k0_t110_loop.trips, ∀ (r : Fin 2), ∀ a, (k0_off1346 k0_t110 (BitVec.ofNat 32 (176 + 16 * r.val))) a + S16.size a ≤ S8192.size a
  k0_off1347_inb : ∀ k0_t110 : Fin k0_t110_loop.trips, ∀ (r : Fin 2), ∀ a, (k0_off1347 k0_t110 (BitVec.ofNat 32 (192 + 16 * r.val))) a + S16.size a ≤ S8192.size a
  k0_off1348_inb : ∀ k0_t110 : Fin k0_t110_loop.trips, ∀ (r : Fin 2), ∀ a, (k0_off1348 k0_t110 (BitVec.ofNat 32 (208 + 16 * r.val))) a + S16.size a ≤ S8192.size a
  k0_off1349_inb : ∀ k0_t110 : Fin k0_t110_loop.trips, ∀ (r : Fin 2), ∀ a, (k0_off1349 k0_t110 (BitVec.ofNat 32 (224 + 16 * r.val))) a + S16.size a ≤ S8192.size a
  k0_off1350_inb : ∀ k0_t110 : Fin k0_t110_loop.trips, ∀ a, (k0_off1350 k0_t110) a + S16.size a ≤ S8192.size a
  k0_off1351_inb : ∀ (i : grid0.Coords) (k0_t109 : Fin (k0_t109_loop i).trips), ∀ a, (k0_off1351 i k0_t109) a + S1x8192.size a ≤ S936x16384.size a
  k0_t111_ok : k0_t111_loop.OK
  k0_off1352_inb : ∀ k0_t111 : Fin k0_t111_loop.trips, ∀ a, (k0_off1352 k0_t111) a + S16.size a ≤ S8192.size a
  k0_off1353_inb : ∀ k0_t111 : Fin k0_t111_loop.trips, ∀ (r : Fin 2), ∀ a, (k0_off1353 k0_t111 (BitVec.ofNat 32 (16 * r.val))) a + S16.size a ≤ S8192.size a
  k0_off1354_inb : ∀ k0_t111 : Fin k0_t111_loop.trips, ∀ (r : Fin 2), ∀ a, (k0_off1354 k0_t111 (BitVec.ofNat 32 (16 + 16 * r.val))) a + S16.size a ≤ S8192.size a
  k0_off1355_inb : ∀ k0_t111 : Fin k0_t111_loop.trips, ∀ (r : Fin 2), ∀ a, (k0_off1355 k0_t111 (BitVec.ofNat 32 (32 + 16 * r.val))) a + S16.size a ≤ S8192.size a
  k0_off1356_inb : ∀ k0_t111 : Fin k0_t111_loop.trips, ∀ (r : Fin 2), ∀ a, (k0_off1356 k0_t111 (BitVec.ofNat 32 (48 + 16 * r.val))) a + S16.size a ≤ S8192.size a
  k0_off1357_inb : ∀ k0_t111 : Fin k0_t111_loop.trips, ∀ (r : Fin 2), ∀ a, (k0_off1357 k0_t111 (BitVec.ofNat 32 (64 + 16 * r.val))) a + S16.size a ≤ S8192.size a
  k0_off1358_inb : ∀ k0_t111 : Fin k0_t111_loop.trips, ∀ (r : Fin 2), ∀ a, (k0_off1358 k0_t111 (BitVec.ofNat 32 (80 + 16 * r.val))) a + S16.size a ≤ S8192.size a
  k0_off1359_inb : ∀ k0_t111 : Fin k0_t111_loop.trips, ∀ (r : Fin 2), ∀ a, (k0_off1359 k0_t111 (BitVec.ofNat 32 (96 + 16 * r.val))) a + S16.size a ≤ S8192.size a
  k0_off1360_inb : ∀ k0_t111 : Fin k0_t111_loop.trips, ∀ (r : Fin 2), ∀ a, (k0_off1360 k0_t111 (BitVec.ofNat 32 (112 + 16 * r.val))) a + S16.size a ≤ S8192.size a
  k0_off1361_inb : ∀ k0_t111 : Fin k0_t111_loop.trips, ∀ (r : Fin 2), ∀ a, (k0_off1361 k0_t111 (BitVec.ofNat 32 (128 + 16 * r.val))) a + S16.size a ≤ S8192.size a
  k0_off1362_inb : ∀ k0_t111 : Fin k0_t111_loop.trips, ∀ (r : Fin 2), ∀ a, (k0_off1362 k0_t111 (BitVec.ofNat 32 (144 + 16 * r.val))) a + S16.size a ≤ S8192.size a
  k0_off1363_inb : ∀ k0_t111 : Fin k0_t111_loop.trips, ∀ (r : Fin 2), ∀ a, (k0_off1363 k0_t111 (BitVec.ofNat 32 (160 + 16 * r.val))) a + S16.size a ≤ S8192.size a
  k0_off1364_inb : ∀ k0_t111 : Fin k0_t111_loop.trips, ∀ (r : Fin 2), ∀ a, (k0_off1364 k0_t111 (BitVec.ofNat 32 (176 + 16 * r.val))) a + S16.size a ≤ S8192.size a
  k0_off1365_inb : ∀ k0_t111 : Fin k0_t111_loop.trips, ∀ (r : Fin 2), ∀ a, (k0_off1365 k0_t111 (BitVec.ofNat 32 (192 + 16 * r.val))) a + S16.size a ≤ S8192.size a
  k0_off1366_inb : ∀ k0_t111 : Fin k0_t111_loop.trips, ∀ (r : Fin 2), ∀ a, (k0_off1366 k0_t111 (BitVec.ofNat 32 (208 + 16 * r.val))) a + S16.size a ≤ S8192.size a
  k0_off1367_inb : ∀ k0_t111 : Fin k0_t111_loop.trips, ∀ (r : Fin 2), ∀ a, (k0_off1367 k0_t111 (BitVec.ofNat 32 (224 + 16 * r.val))) a + S16.size a ≤ S8192.size a
  k0_off1368_inb : ∀ k0_t111 : Fin k0_t111_loop.trips, ∀ a, (k0_off1368 k0_t111) a + S16.size a ≤ S8192.size a
  k0_off1369_inb : ∀ (i : grid0.Coords) (k0_t109 : Fin (k0_t109_loop i).trips), ∀ a, (k0_off1369 i k0_t109) a + S1x8192.size a ≤ S936x16384.size a
  k0_t112_ok : ∀ i : grid0.Coords, (k0_t112_loop i).OK
  k0_off1370_inb : ∀ (i : grid0.Coords) (k0_t112 : Fin (k0_t112_loop i).trips), ∀ a, (k0_off1370 i k0_t112) a + S1x100000.size a ≤ S36x100000.size a
  k0_t113_ok : k0_t113_loop.OK
  k0_off1371_inb : ∀ k0_t113 : Fin k0_t113_loop.trips, ∀ a, (k0_off1371 k0_t113) a + S16.size a ≤ S8192.size a
  k0_off1372_inb : ∀ k0_t113 : Fin k0_t113_loop.trips, ∀ (r : Fin 2), ∀ a, (k0_off1372 k0_t113 (BitVec.ofNat 32 (16 * r.val))) a + S16.size a ≤ S8192.size a
  k0_off1373_inb : ∀ k0_t113 : Fin k0_t113_loop.trips, ∀ (r : Fin 2), ∀ a, (k0_off1373 k0_t113 (BitVec.ofNat 32 (16 + 16 * r.val))) a + S16.size a ≤ S8192.size a
  k0_off1374_inb : ∀ k0_t113 : Fin k0_t113_loop.trips, ∀ (r : Fin 2), ∀ a, (k0_off1374 k0_t113 (BitVec.ofNat 32 (32 + 16 * r.val))) a + S16.size a ≤ S8192.size a
  k0_off1375_inb : ∀ k0_t113 : Fin k0_t113_loop.trips, ∀ (r : Fin 2), ∀ a, (k0_off1375 k0_t113 (BitVec.ofNat 32 (48 + 16 * r.val))) a + S16.size a ≤ S8192.size a
  k0_off1376_inb : ∀ k0_t113 : Fin k0_t113_loop.trips, ∀ (r : Fin 2), ∀ a, (k0_off1376 k0_t113 (BitVec.ofNat 32 (64 + 16 * r.val))) a + S16.size a ≤ S8192.size a
  k0_off1377_inb : ∀ k0_t113 : Fin k0_t113_loop.trips, ∀ (r : Fin 2), ∀ a, (k0_off1377 k0_t113 (BitVec.ofNat 32 (80 + 16 * r.val))) a + S16.size a ≤ S8192.size a
  k0_off1378_inb : ∀ k0_t113 : Fin k0_t113_loop.trips, ∀ (r : Fin 2), ∀ a, (k0_off1378 k0_t113 (BitVec.ofNat 32 (96 + 16 * r.val))) a + S16.size a ≤ S8192.size a
  k0_off1379_inb : ∀ k0_t113 : Fin k0_t113_loop.trips, ∀ (r : Fin 2), ∀ a, (k0_off1379 k0_t113 (BitVec.ofNat 32 (112 + 16 * r.val))) a + S16.size a ≤ S8192.size a
  k0_off1380_inb : ∀ k0_t113 : Fin k0_t113_loop.trips, ∀ (r : Fin 2), ∀ a, (k0_off1380 k0_t113 (BitVec.ofNat 32 (128 + 16 * r.val))) a + S16.size a ≤ S8192.size a
  k0_off1381_inb : ∀ k0_t113 : Fin k0_t113_loop.trips, ∀ (r : Fin 2), ∀ a, (k0_off1381 k0_t113 (BitVec.ofNat 32 (144 + 16 * r.val))) a + S16.size a ≤ S8192.size a
  k0_off1382_inb : ∀ k0_t113 : Fin k0_t113_loop.trips, ∀ (r : Fin 2), ∀ a, (k0_off1382 k0_t113 (BitVec.ofNat 32 (160 + 16 * r.val))) a + S16.size a ≤ S8192.size a
  k0_off1383_inb : ∀ k0_t113 : Fin k0_t113_loop.trips, ∀ (r : Fin 2), ∀ a, (k0_off1383 k0_t113 (BitVec.ofNat 32 (176 + 16 * r.val))) a + S16.size a ≤ S8192.size a
  k0_off1384_inb : ∀ k0_t113 : Fin k0_t113_loop.trips, ∀ (r : Fin 2), ∀ a, (k0_off1384 k0_t113 (BitVec.ofNat 32 (192 + 16 * r.val))) a + S16.size a ≤ S8192.size a
  k0_off1385_inb : ∀ k0_t113 : Fin k0_t113_loop.trips, ∀ (r : Fin 2), ∀ a, (k0_off1385 k0_t113 (BitVec.ofNat 32 (208 + 16 * r.val))) a + S16.size a ≤ S8192.size a
  k0_off1386_inb : ∀ k0_t113 : Fin k0_t113_loop.trips, ∀ (r : Fin 2), ∀ a, (k0_off1386 k0_t113 (BitVec.ofNat 32 (224 + 16 * r.val))) a + S16.size a ≤ S8192.size a
  k0_off1387_inb : ∀ k0_t113 : Fin k0_t113_loop.trips, ∀ a, (k0_off1387 k0_t113) a + S16.size a ≤ S8192.size a
  k0_off1388_inb : ∀ (i : grid0.Coords) (k0_t112 : Fin (k0_t112_loop i).trips), ∀ a, (k0_off1388 i k0_t112) a + S1x8192.size a ≤ S936x16384.size a
  k0_t114_ok : k0_t114_loop.OK
  k0_off1389_inb : ∀ k0_t114 : Fin k0_t114_loop.trips, ∀ a, (k0_off1389 k0_t114) a + S16.size a ≤ S8192.size a
  k0_off1390_inb : ∀ k0_t114 : Fin k0_t114_loop.trips, ∀ (r : Fin 2), ∀ a, (k0_off1390 k0_t114 (BitVec.ofNat 32 (16 * r.val))) a + S16.size a ≤ S8192.size a
  k0_off1391_inb : ∀ k0_t114 : Fin k0_t114_loop.trips, ∀ (r : Fin 2), ∀ a, (k0_off1391 k0_t114 (BitVec.ofNat 32 (16 + 16 * r.val))) a + S16.size a ≤ S8192.size a
  k0_off1392_inb : ∀ k0_t114 : Fin k0_t114_loop.trips, ∀ (r : Fin 2), ∀ a, (k0_off1392 k0_t114 (BitVec.ofNat 32 (32 + 16 * r.val))) a + S16.size a ≤ S8192.size a
  k0_off1393_inb : ∀ k0_t114 : Fin k0_t114_loop.trips, ∀ (r : Fin 2), ∀ a, (k0_off1393 k0_t114 (BitVec.ofNat 32 (48 + 16 * r.val))) a + S16.size a ≤ S8192.size a
  k0_off1394_inb : ∀ k0_t114 : Fin k0_t114_loop.trips, ∀ (r : Fin 2), ∀ a, (k0_off1394 k0_t114 (BitVec.ofNat 32 (64 + 16 * r.val))) a + S16.size a ≤ S8192.size a
  k0_off1395_inb : ∀ k0_t114 : Fin k0_t114_loop.trips, ∀ (r : Fin 2), ∀ a, (k0_off1395 k0_t114 (BitVec.ofNat 32 (80 + 16 * r.val))) a + S16.size a ≤ S8192.size a
  k0_off1396_inb : ∀ k0_t114 : Fin k0_t114_loop.trips, ∀ (r : Fin 2), ∀ a, (k0_off1396 k0_t114 (BitVec.ofNat 32 (96 + 16 * r.val))) a + S16.size a ≤ S8192.size a
  k0_off1397_inb : ∀ k0_t114 : Fin k0_t114_loop.trips, ∀ (r : Fin 2), ∀ a, (k0_off1397 k0_t114 (BitVec.ofNat 32 (112 + 16 * r.val))) a + S16.size a ≤ S8192.size a
  k0_off1398_inb : ∀ k0_t114 : Fin k0_t114_loop.trips, ∀ (r : Fin 2), ∀ a, (k0_off1398 k0_t114 (BitVec.ofNat 32 (128 + 16 * r.val))) a + S16.size a ≤ S8192.size a
  k0_off1399_inb : ∀ k0_t114 : Fin k0_t114_loop.trips, ∀ (r : Fin 2), ∀ a, (k0_off1399 k0_t114 (BitVec.ofNat 32 (144 + 16 * r.val))) a + S16.size a ≤ S8192.size a
  k0_off1400_inb : ∀ k0_t114 : Fin k0_t114_loop.trips, ∀ (r : Fin 2), ∀ a, (k0_off1400 k0_t114 (BitVec.ofNat 32 (160 + 16 * r.val))) a + S16.size a ≤ S8192.size a
  k0_off1401_inb : ∀ k0_t114 : Fin k0_t114_loop.trips, ∀ (r : Fin 2), ∀ a, (k0_off1401 k0_t114 (BitVec.ofNat 32 (176 + 16 * r.val))) a + S16.size a ≤ S8192.size a
  k0_off1402_inb : ∀ k0_t114 : Fin k0_t114_loop.trips, ∀ (r : Fin 2), ∀ a, (k0_off1402 k0_t114 (BitVec.ofNat 32 (192 + 16 * r.val))) a + S16.size a ≤ S8192.size a
  k0_off1403_inb : ∀ k0_t114 : Fin k0_t114_loop.trips, ∀ (r : Fin 2), ∀ a, (k0_off1403 k0_t114 (BitVec.ofNat 32 (208 + 16 * r.val))) a + S16.size a ≤ S8192.size a
  k0_off1404_inb : ∀ k0_t114 : Fin k0_t114_loop.trips, ∀ (r : Fin 2), ∀ a, (k0_off1404 k0_t114 (BitVec.ofNat 32 (224 + 16 * r.val))) a + S16.size a ≤ S8192.size a
  k0_off1405_inb : ∀ k0_t114 : Fin k0_t114_loop.trips, ∀ a, (k0_off1405 k0_t114) a + S16.size a ≤ S8192.size a
  k0_off1406_inb : ∀ (i : grid0.Coords) (k0_t112 : Fin (k0_t112_loop i).trips), ∀ a, (k0_off1406 i k0_t112) a + S1x8192.size a ≤ S936x16384.size a
  k0_t115_ok : ∀ i : grid0.Coords, (k0_t115_loop i).OK
  k0_off1407_inb : ∀ (i : grid0.Coords) (k0_t115 : Fin (k0_t115_loop i).trips), ∀ a, (k0_off1407 i k0_t115) a + S1x100000.size a ≤ S36x100000.size a
  k0_t116_ok : k0_t116_loop.OK
  k0_off1408_inb : ∀ k0_t116 : Fin k0_t116_loop.trips, ∀ a, (k0_off1408 k0_t116) a + S16.size a ≤ S8192.size a
  k0_off1409_inb : ∀ k0_t116 : Fin k0_t116_loop.trips, ∀ (r : Fin 2), ∀ a, (k0_off1409 k0_t116 (BitVec.ofNat 32 (16 * r.val))) a + S16.size a ≤ S8192.size a
  k0_off1410_inb : ∀ k0_t116 : Fin k0_t116_loop.trips, ∀ (r : Fin 2), ∀ a, (k0_off1410 k0_t116 (BitVec.ofNat 32 (16 + 16 * r.val))) a + S16.size a ≤ S8192.size a
  k0_off1411_inb : ∀ k0_t116 : Fin k0_t116_loop.trips, ∀ (r : Fin 2), ∀ a, (k0_off1411 k0_t116 (BitVec.ofNat 32 (32 + 16 * r.val))) a + S16.size a ≤ S8192.size a
  k0_off1412_inb : ∀ k0_t116 : Fin k0_t116_loop.trips, ∀ (r : Fin 2), ∀ a, (k0_off1412 k0_t116 (BitVec.ofNat 32 (48 + 16 * r.val))) a + S16.size a ≤ S8192.size a
  k0_off1413_inb : ∀ k0_t116 : Fin k0_t116_loop.trips, ∀ (r : Fin 2), ∀ a, (k0_off1413 k0_t116 (BitVec.ofNat 32 (64 + 16 * r.val))) a + S16.size a ≤ S8192.size a
  k0_off1414_inb : ∀ k0_t116 : Fin k0_t116_loop.trips, ∀ (r : Fin 2), ∀ a, (k0_off1414 k0_t116 (BitVec.ofNat 32 (80 + 16 * r.val))) a + S16.size a ≤ S8192.size a
  k0_off1415_inb : ∀ k0_t116 : Fin k0_t116_loop.trips, ∀ (r : Fin 2), ∀ a, (k0_off1415 k0_t116 (BitVec.ofNat 32 (96 + 16 * r.val))) a + S16.size a ≤ S8192.size a
  k0_off1416_inb : ∀ k0_t116 : Fin k0_t116_loop.trips, ∀ (r : Fin 2), ∀ a, (k0_off1416 k0_t116 (BitVec.ofNat 32 (112 + 16 * r.val))) a + S16.size a ≤ S8192.size a
  k0_off1417_inb : ∀ k0_t116 : Fin k0_t116_loop.trips, ∀ (r : Fin 2), ∀ a, (k0_off1417 k0_t116 (BitVec.ofNat 32 (128 + 16 * r.val))) a + S16.size a ≤ S8192.size a
  k0_off1418_inb : ∀ k0_t116 : Fin k0_t116_loop.trips, ∀ (r : Fin 2), ∀ a, (k0_off1418 k0_t116 (BitVec.ofNat 32 (144 + 16 * r.val))) a + S16.size a ≤ S8192.size a
  k0_off1419_inb : ∀ k0_t116 : Fin k0_t116_loop.trips, ∀ (r : Fin 2), ∀ a, (k0_off1419 k0_t116 (BitVec.ofNat 32 (160 + 16 * r.val))) a + S16.size a ≤ S8192.size a
  k0_off1420_inb : ∀ k0_t116 : Fin k0_t116_loop.trips, ∀ (r : Fin 2), ∀ a, (k0_off1420 k0_t116 (BitVec.ofNat 32 (176 + 16 * r.val))) a + S16.size a ≤ S8192.size a
  k0_off1421_inb : ∀ k0_t116 : Fin k0_t116_loop.trips, ∀ (r : Fin 2), ∀ a, (k0_off1421 k0_t116 (BitVec.ofNat 32 (192 + 16 * r.val))) a + S16.size a ≤ S8192.size a
  k0_off1422_inb : ∀ k0_t116 : Fin k0_t116_loop.trips, ∀ (r : Fin 2), ∀ a, (k0_off1422 k0_t116 (BitVec.ofNat 32 (208 + 16 * r.val))) a + S16.size a ≤ S8192.size a
  k0_off1423_inb : ∀ k0_t116 : Fin k0_t116_loop.trips, ∀ (r : Fin 2), ∀ a, (k0_off1423 k0_t116 (BitVec.ofNat 32 (224 + 16 * r.val))) a + S16.size a ≤ S8192.size a
  k0_off1424_inb : ∀ k0_t116 : Fin k0_t116_loop.trips, ∀ a, (k0_off1424 k0_t116) a + S16.size a ≤ S8192.size a
  k0_off1425_inb : ∀ (i : grid0.Coords) (k0_t115 : Fin (k0_t115_loop i).trips), ∀ a, (k0_off1425 i k0_t115) a + S1x8192.size a ≤ S936x16384.size a
  k0_t117_ok : k0_t117_loop.OK
  k0_off1426_inb : ∀ k0_t117 : Fin k0_t117_loop.trips, ∀ a, (k0_off1426 k0_t117) a + S16.size a ≤ S8192.size a
  k0_off1427_inb : ∀ k0_t117 : Fin k0_t117_loop.trips, ∀ (r : Fin 2), ∀ a, (k0_off1427 k0_t117 (BitVec.ofNat 32 (16 * r.val))) a + S16.size a ≤ S8192.size a
  k0_off1428_inb : ∀ k0_t117 : Fin k0_t117_loop.trips, ∀ (r : Fin 2), ∀ a, (k0_off1428 k0_t117 (BitVec.ofNat 32 (16 + 16 * r.val))) a + S16.size a ≤ S8192.size a
  k0_off1429_inb : ∀ k0_t117 : Fin k0_t117_loop.trips, ∀ (r : Fin 2), ∀ a, (k0_off1429 k0_t117 (BitVec.ofNat 32 (32 + 16 * r.val))) a + S16.size a ≤ S8192.size a
  k0_off1430_inb : ∀ k0_t117 : Fin k0_t117_loop.trips, ∀ (r : Fin 2), ∀ a, (k0_off1430 k0_t117 (BitVec.ofNat 32 (48 + 16 * r.val))) a + S16.size a ≤ S8192.size a
  k0_off1431_inb : ∀ k0_t117 : Fin k0_t117_loop.trips, ∀ (r : Fin 2), ∀ a, (k0_off1431 k0_t117 (BitVec.ofNat 32 (64 + 16 * r.val))) a + S16.size a ≤ S8192.size a
  k0_off1432_inb : ∀ k0_t117 : Fin k0_t117_loop.trips, ∀ (r : Fin 2), ∀ a, (k0_off1432 k0_t117 (BitVec.ofNat 32 (80 + 16 * r.val))) a + S16.size a ≤ S8192.size a
  k0_off1433_inb : ∀ k0_t117 : Fin k0_t117_loop.trips, ∀ (r : Fin 2), ∀ a, (k0_off1433 k0_t117 (BitVec.ofNat 32 (96 + 16 * r.val))) a + S16.size a ≤ S8192.size a
  k0_off1434_inb : ∀ k0_t117 : Fin k0_t117_loop.trips, ∀ (r : Fin 2), ∀ a, (k0_off1434 k0_t117 (BitVec.ofNat 32 (112 + 16 * r.val))) a + S16.size a ≤ S8192.size a
  k0_off1435_inb : ∀ k0_t117 : Fin k0_t117_loop.trips, ∀ (r : Fin 2), ∀ a, (k0_off1435 k0_t117 (BitVec.ofNat 32 (128 + 16 * r.val))) a + S16.size a ≤ S8192.size a
  k0_off1436_inb : ∀ k0_t117 : Fin k0_t117_loop.trips, ∀ (r : Fin 2), ∀ a, (k0_off1436 k0_t117 (BitVec.ofNat 32 (144 + 16 * r.val))) a + S16.size a ≤ S8192.size a
  k0_off1437_inb : ∀ k0_t117 : Fin k0_t117_loop.trips, ∀ (r : Fin 2), ∀ a, (k0_off1437 k0_t117 (BitVec.ofNat 32 (160 + 16 * r.val))) a + S16.size a ≤ S8192.size a
  k0_off1438_inb : ∀ k0_t117 : Fin k0_t117_loop.trips, ∀ (r : Fin 2), ∀ a, (k0_off1438 k0_t117 (BitVec.ofNat 32 (176 + 16 * r.val))) a + S16.size a ≤ S8192.size a
  k0_off1439_inb : ∀ k0_t117 : Fin k0_t117_loop.trips, ∀ (r : Fin 2), ∀ a, (k0_off1439 k0_t117 (BitVec.ofNat 32 (192 + 16 * r.val))) a + S16.size a ≤ S8192.size a
  k0_off1440_inb : ∀ k0_t117 : Fin k0_t117_loop.trips, ∀ (r : Fin 2), ∀ a, (k0_off1440 k0_t117 (BitVec.ofNat 32 (208 + 16 * r.val))) a + S16.size a ≤ S8192.size a
  k0_off1441_inb : ∀ k0_t117 : Fin k0_t117_loop.trips, ∀ (r : Fin 2), ∀ a, (k0_off1441 k0_t117 (BitVec.ofNat 32 (224 + 16 * r.val))) a + S16.size a ≤ S8192.size a
  k0_off1442_inb : ∀ k0_t117 : Fin k0_t117_loop.trips, ∀ a, (k0_off1442 k0_t117) a + S16.size a ≤ S8192.size a
  k0_off1443_inb : ∀ (i : grid0.Coords) (k0_t115 : Fin (k0_t115_loop i).trips), ∀ a, (k0_off1443 i k0_t115) a + S1x8192.size a ≤ S936x16384.size a
  k0_t118_ok : ∀ i : grid0.Coords, (k0_t118_loop i).OK
  k0_off1444_inb : ∀ (i : grid0.Coords) (k0_t118 : Fin (k0_t118_loop i).trips), ∀ a, (k0_off1444 i k0_t118) a + S1x100000.size a ≤ S36x100000.size a
  k0_t119_ok : k0_t119_loop.OK
  k0_off1445_inb : ∀ k0_t119 : Fin k0_t119_loop.trips, ∀ a, (k0_off1445 k0_t119) a + S16.size a ≤ S8192.size a
  k0_off1446_inb : ∀ k0_t119 : Fin k0_t119_loop.trips, ∀ (r : Fin 2), ∀ a, (k0_off1446 k0_t119 (BitVec.ofNat 32 (16 * r.val))) a + S16.size a ≤ S8192.size a
  k0_off1447_inb : ∀ k0_t119 : Fin k0_t119_loop.trips, ∀ (r : Fin 2), ∀ a, (k0_off1447 k0_t119 (BitVec.ofNat 32 (16 + 16 * r.val))) a + S16.size a ≤ S8192.size a
  k0_off1448_inb : ∀ k0_t119 : Fin k0_t119_loop.trips, ∀ (r : Fin 2), ∀ a, (k0_off1448 k0_t119 (BitVec.ofNat 32 (32 + 16 * r.val))) a + S16.size a ≤ S8192.size a
  k0_off1449_inb : ∀ k0_t119 : Fin k0_t119_loop.trips, ∀ (r : Fin 2), ∀ a, (k0_off1449 k0_t119 (BitVec.ofNat 32 (48 + 16 * r.val))) a + S16.size a ≤ S8192.size a
  k0_off1450_inb : ∀ k0_t119 : Fin k0_t119_loop.trips, ∀ (r : Fin 2), ∀ a, (k0_off1450 k0_t119 (BitVec.ofNat 32 (64 + 16 * r.val))) a + S16.size a ≤ S8192.size a
  k0_off1451_inb : ∀ k0_t119 : Fin k0_t119_loop.trips, ∀ (r : Fin 2), ∀ a, (k0_off1451 k0_t119 (BitVec.ofNat 32 (80 + 16 * r.val))) a + S16.size a ≤ S8192.size a
  k0_off1452_inb : ∀ k0_t119 : Fin k0_t119_loop.trips, ∀ (r : Fin 2), ∀ a, (k0_off1452 k0_t119 (BitVec.ofNat 32 (96 + 16 * r.val))) a + S16.size a ≤ S8192.size a
  k0_off1453_inb : ∀ k0_t119 : Fin k0_t119_loop.trips, ∀ (r : Fin 2), ∀ a, (k0_off1453 k0_t119 (BitVec.ofNat 32 (112 + 16 * r.val))) a + S16.size a ≤ S8192.size a
  k0_off1454_inb : ∀ k0_t119 : Fin k0_t119_loop.trips, ∀ (r : Fin 2), ∀ a, (k0_off1454 k0_t119 (BitVec.ofNat 32 (128 + 16 * r.val))) a + S16.size a ≤ S8192.size a
  k0_off1455_inb : ∀ k0_t119 : Fin k0_t119_loop.trips, ∀ (r : Fin 2), ∀ a, (k0_off1455 k0_t119 (BitVec.ofNat 32 (144 + 16 * r.val))) a + S16.size a ≤ S8192.size a
  k0_off1456_inb : ∀ k0_t119 : Fin k0_t119_loop.trips, ∀ (r : Fin 2), ∀ a, (k0_off1456 k0_t119 (BitVec.ofNat 32 (160 + 16 * r.val))) a + S16.size a ≤ S8192.size a
  k0_off1457_inb : ∀ k0_t119 : Fin k0_t119_loop.trips, ∀ (r : Fin 2), ∀ a, (k0_off1457 k0_t119 (BitVec.ofNat 32 (176 + 16 * r.val))) a + S16.size a ≤ S8192.size a
  k0_off1458_inb : ∀ k0_t119 : Fin k0_t119_loop.trips, ∀ (r : Fin 2), ∀ a, (k0_off1458 k0_t119 (BitVec.ofNat 32 (192 + 16 * r.val))) a + S16.size a ≤ S8192.size a
  k0_off1459_inb : ∀ k0_t119 : Fin k0_t119_loop.trips, ∀ (r : Fin 2), ∀ a, (k0_off1459 k0_t119 (BitVec.ofNat 32 (208 + 16 * r.val))) a + S16.size a ≤ S8192.size a
  k0_off1460_inb : ∀ k0_t119 : Fin k0_t119_loop.trips, ∀ (r : Fin 2), ∀ a, (k0_off1460 k0_t119 (BitVec.ofNat 32 (224 + 16 * r.val))) a + S16.size a ≤ S8192.size a
  k0_off1461_inb : ∀ k0_t119 : Fin k0_t119_loop.trips, ∀ a, (k0_off1461 k0_t119) a + S16.size a ≤ S8192.size a
  k0_off1462_inb : ∀ (i : grid0.Coords) (k0_t118 : Fin (k0_t118_loop i).trips), ∀ a, (k0_off1462 i k0_t118) a + S1x8192.size a ≤ S936x16384.size a
  k0_t120_ok : k0_t120_loop.OK
  k0_off1463_inb : ∀ k0_t120 : Fin k0_t120_loop.trips, ∀ a, (k0_off1463 k0_t120) a + S16.size a ≤ S8192.size a
  k0_off1464_inb : ∀ k0_t120 : Fin k0_t120_loop.trips, ∀ (r : Fin 2), ∀ a, (k0_off1464 k0_t120 (BitVec.ofNat 32 (16 * r.val))) a + S16.size a ≤ S8192.size a
  k0_off1465_inb : ∀ k0_t120 : Fin k0_t120_loop.trips, ∀ (r : Fin 2), ∀ a, (k0_off1465 k0_t120 (BitVec.ofNat 32 (16 + 16 * r.val))) a + S16.size a ≤ S8192.size a
  k0_off1466_inb : ∀ k0_t120 : Fin k0_t120_loop.trips, ∀ (r : Fin 2), ∀ a, (k0_off1466 k0_t120 (BitVec.ofNat 32 (32 + 16 * r.val))) a + S16.size a ≤ S8192.size a
  k0_off1467_inb : ∀ k0_t120 : Fin k0_t120_loop.trips, ∀ (r : Fin 2), ∀ a, (k0_off1467 k0_t120 (BitVec.ofNat 32 (48 + 16 * r.val))) a + S16.size a ≤ S8192.size a
  k0_off1468_inb : ∀ k0_t120 : Fin k0_t120_loop.trips, ∀ (r : Fin 2), ∀ a, (k0_off1468 k0_t120 (BitVec.ofNat 32 (64 + 16 * r.val))) a + S16.size a ≤ S8192.size a
  k0_off1469_inb : ∀ k0_t120 : Fin k0_t120_loop.trips, ∀ (r : Fin 2), ∀ a, (k0_off1469 k0_t120 (BitVec.ofNat 32 (80 + 16 * r.val))) a + S16.size a ≤ S8192.size a
  k0_off1470_inb : ∀ k0_t120 : Fin k0_t120_loop.trips, ∀ (r : Fin 2), ∀ a, (k0_off1470 k0_t120 (BitVec.ofNat 32 (96 + 16 * r.val))) a + S16.size a ≤ S8192.size a
  k0_off1471_inb : ∀ k0_t120 : Fin k0_t120_loop.trips, ∀ (r : Fin 2), ∀ a, (k0_off1471 k0_t120 (BitVec.ofNat 32 (112 + 16 * r.val))) a + S16.size a ≤ S8192.size a
  k0_off1472_inb : ∀ k0_t120 : Fin k0_t120_loop.trips, ∀ (r : Fin 2), ∀ a, (k0_off1472 k0_t120 (BitVec.ofNat 32 (128 + 16 * r.val))) a + S16.size a ≤ S8192.size a
  k0_off1473_inb : ∀ k0_t120 : Fin k0_t120_loop.trips, ∀ (r : Fin 2), ∀ a, (k0_off1473 k0_t120 (BitVec.ofNat 32 (144 + 16 * r.val))) a + S16.size a ≤ S8192.size a
  k0_off1474_inb : ∀ k0_t120 : Fin k0_t120_loop.trips, ∀ (r : Fin 2), ∀ a, (k0_off1474 k0_t120 (BitVec.ofNat 32 (160 + 16 * r.val))) a + S16.size a ≤ S8192.size a
  k0_off1475_inb : ∀ k0_t120 : Fin k0_t120_loop.trips, ∀ (r : Fin 2), ∀ a, (k0_off1475 k0_t120 (BitVec.ofNat 32 (176 + 16 * r.val))) a + S16.size a ≤ S8192.size a
  k0_off1476_inb : ∀ k0_t120 : Fin k0_t120_loop.trips, ∀ (r : Fin 2), ∀ a, (k0_off1476 k0_t120 (BitVec.ofNat 32 (192 + 16 * r.val))) a + S16.size a ≤ S8192.size a
  k0_off1477_inb : ∀ k0_t120 : Fin k0_t120_loop.trips, ∀ (r : Fin 2), ∀ a, (k0_off1477 k0_t120 (BitVec.ofNat 32 (208 + 16 * r.val))) a + S16.size a ≤ S8192.size a
  k0_off1478_inb : ∀ k0_t120 : Fin k0_t120_loop.trips, ∀ (r : Fin 2), ∀ a, (k0_off1478 k0_t120 (BitVec.ofNat 32 (224 + 16 * r.val))) a + S16.size a ≤ S8192.size a
  k0_off1479_inb : ∀ k0_t120 : Fin k0_t120_loop.trips, ∀ a, (k0_off1479 k0_t120) a + S16.size a ≤ S8192.size a
  k0_off1480_inb : ∀ (i : grid0.Coords) (k0_t118 : Fin (k0_t118_loop i).trips), ∀ a, (k0_off1480 i k0_t118) a + S1x8192.size a ≤ S936x16384.size a
  k0_t121_ok : ∀ i : grid0.Coords, (k0_t121_loop i).OK
  k0_off1481_inb : ∀ (i : grid0.Coords) (k0_t121 : Fin (k0_t121_loop i).trips), ∀ a, (k0_off1481 i k0_t121) a + S1x100000.size a ≤ S36x100000.size a
  k0_t122_ok : k0_t122_loop.OK
  k0_off1482_inb : ∀ k0_t122 : Fin k0_t122_loop.trips, ∀ a, (k0_off1482 k0_t122) a + S16.size a ≤ S8192.size a
  k0_off1483_inb : ∀ k0_t122 : Fin k0_t122_loop.trips, ∀ (r : Fin 2), ∀ a, (k0_off1483 k0_t122 (BitVec.ofNat 32 (16 * r.val))) a + S16.size a ≤ S8192.size a
  k0_off1484_inb : ∀ k0_t122 : Fin k0_t122_loop.trips, ∀ (r : Fin 2), ∀ a, (k0_off1484 k0_t122 (BitVec.ofNat 32 (16 + 16 * r.val))) a + S16.size a ≤ S8192.size a
  k0_off1485_inb : ∀ k0_t122 : Fin k0_t122_loop.trips, ∀ (r : Fin 2), ∀ a, (k0_off1485 k0_t122 (BitVec.ofNat 32 (32 + 16 * r.val))) a + S16.size a ≤ S8192.size a
  k0_off1486_inb : ∀ k0_t122 : Fin k0_t122_loop.trips, ∀ (r : Fin 2), ∀ a, (k0_off1486 k0_t122 (BitVec.ofNat 32 (48 + 16 * r.val))) a + S16.size a ≤ S8192.size a
  k0_off1487_inb : ∀ k0_t122 : Fin k0_t122_loop.trips, ∀ (r : Fin 2), ∀ a, (k0_off1487 k0_t122 (BitVec.ofNat 32 (64 + 16 * r.val))) a + S16.size a ≤ S8192.size a
  k0_off1488_inb : ∀ k0_t122 : Fin k0_t122_loop.trips, ∀ (r : Fin 2), ∀ a, (k0_off1488 k0_t122 (BitVec.ofNat 32 (80 + 16 * r.val))) a + S16.size a ≤ S8192.size a
  k0_off1489_inb : ∀ k0_t122 : Fin k0_t122_loop.trips, ∀ (r : Fin 2), ∀ a, (k0_off1489 k0_t122 (BitVec.ofNat 32 (96 + 16 * r.val))) a + S16.size a ≤ S8192.size a
  k0_off1490_inb : ∀ k0_t122 : Fin k0_t122_loop.trips, ∀ (r : Fin 2), ∀ a, (k0_off1490 k0_t122 (BitVec.ofNat 32 (112 + 16 * r.val))) a + S16.size a ≤ S8192.size a
  k0_off1491_inb : ∀ k0_t122 : Fin k0_t122_loop.trips, ∀ (r : Fin 2), ∀ a, (k0_off1491 k0_t122 (BitVec.ofNat 32 (128 + 16 * r.val))) a + S16.size a ≤ S8192.size a
  k0_off1492_inb : ∀ k0_t122 : Fin k0_t122_loop.trips, ∀ (r : Fin 2), ∀ a, (k0_off1492 k0_t122 (BitVec.ofNat 32 (144 + 16 * r.val))) a + S16.size a ≤ S8192.size a
  k0_off1493_inb : ∀ k0_t122 : Fin k0_t122_loop.trips, ∀ (r : Fin 2), ∀ a, (k0_off1493 k0_t122 (BitVec.ofNat 32 (160 + 16 * r.val))) a + S16.size a ≤ S8192.size a
  k0_off1494_inb : ∀ k0_t122 : Fin k0_t122_loop.trips, ∀ (r : Fin 2), ∀ a, (k0_off1494 k0_t122 (BitVec.ofNat 32 (176 + 16 * r.val))) a + S16.size a ≤ S8192.size a
  k0_off1495_inb : ∀ k0_t122 : Fin k0_t122_loop.trips, ∀ (r : Fin 2), ∀ a, (k0_off1495 k0_t122 (BitVec.ofNat 32 (192 + 16 * r.val))) a + S16.size a ≤ S8192.size a
  k0_off1496_inb : ∀ k0_t122 : Fin k0_t122_loop.trips, ∀ (r : Fin 2), ∀ a, (k0_off1496 k0_t122 (BitVec.ofNat 32 (208 + 16 * r.val))) a + S16.size a ≤ S8192.size a
  k0_off1497_inb : ∀ k0_t122 : Fin k0_t122_loop.trips, ∀ (r : Fin 2), ∀ a, (k0_off1497 k0_t122 (BitVec.ofNat 32 (224 + 16 * r.val))) a + S16.size a ≤ S8192.size a
  k0_off1498_inb : ∀ k0_t122 : Fin k0_t122_loop.trips, ∀ a, (k0_off1498 k0_t122) a + S16.size a ≤ S8192.size a
  k0_off1499_inb : ∀ (i : grid0.Coords) (k0_t121 : Fin (k0_t121_loop i).trips), ∀ a, (k0_off1499 i k0_t121) a + S1x8192.size a ≤ S936x16384.size a
  k0_t123_ok : k0_t123_loop.OK
  k0_off1500_inb : ∀ k0_t123 : Fin k0_t123_loop.trips, ∀ a, (k0_off1500 k0_t123) a + S16.size a ≤ S8192.size a
  k0_off1501_inb : ∀ k0_t123 : Fin k0_t123_loop.trips, ∀ (r : Fin 2), ∀ a, (k0_off1501 k0_t123 (BitVec.ofNat 32 (16 * r.val))) a + S16.size a ≤ S8192.size a
  k0_off1502_inb : ∀ k0_t123 : Fin k0_t123_loop.trips, ∀ (r : Fin 2), ∀ a, (k0_off1502 k0_t123 (BitVec.ofNat 32 (16 + 16 * r.val))) a + S16.size a ≤ S8192.size a
  k0_off1503_inb : ∀ k0_t123 : Fin k0_t123_loop.trips, ∀ (r : Fin 2), ∀ a, (k0_off1503 k0_t123 (BitVec.ofNat 32 (32 + 16 * r.val))) a + S16.size a ≤ S8192.size a
  k0_off1504_inb : ∀ k0_t123 : Fin k0_t123_loop.trips, ∀ (r : Fin 2), ∀ a, (k0_off1504 k0_t123 (BitVec.ofNat 32 (48 + 16 * r.val))) a + S16.size a ≤ S8192.size a
  k0_off1505_inb : ∀ k0_t123 : Fin k0_t123_loop.trips, ∀ (r : Fin 2), ∀ a, (k0_off1505 k0_t123 (BitVec.ofNat 32 (64 + 16 * r.val))) a + S16.size a ≤ S8192.size a
  k0_off1506_inb : ∀ k0_t123 : Fin k0_t123_loop.trips, ∀ (r : Fin 2), ∀ a, (k0_off1506 k0_t123 (BitVec.ofNat 32 (80 + 16 * r.val))) a + S16.size a ≤ S8192.size a
  k0_off1507_inb : ∀ k0_t123 : Fin k0_t123_loop.trips, ∀ (r : Fin 2), ∀ a, (k0_off1507 k0_t123 (BitVec.ofNat 32 (96 + 16 * r.val))) a + S16.size a ≤ S8192.size a
  k0_off1508_inb : ∀ k0_t123 : Fin k0_t123_loop.trips, ∀ (r : Fin 2), ∀ a, (k0_off1508 k0_t123 (BitVec.ofNat 32 (112 + 16 * r.val))) a + S16.size a ≤ S8192.size a
  k0_off1509_inb : ∀ k0_t123 : Fin k0_t123_loop.trips, ∀ (r : Fin 2), ∀ a, (k0_off1509 k0_t123 (BitVec.ofNat 32 (128 + 16 * r.val))) a + S16.size a ≤ S8192.size a
  k0_off1510_inb : ∀ k0_t123 : Fin k0_t123_loop.trips, ∀ (r : Fin 2), ∀ a, (k0_off1510 k0_t123 (BitVec.ofNat 32 (144 + 16 * r.val))) a + S16.size a ≤ S8192.size a
  k0_off1511_inb : ∀ k0_t123 : Fin k0_t123_loop.trips, ∀ (r : Fin 2), ∀ a, (k0_off1511 k0_t123 (BitVec.ofNat 32 (160 + 16 * r.val))) a + S16.size a ≤ S8192.size a
  k0_off1512_inb : ∀ k0_t123 : Fin k0_t123_loop.trips, ∀ (r : Fin 2), ∀ a, (k0_off1512 k0_t123 (BitVec.ofNat 32 (176 + 16 * r.val))) a + S16.size a ≤ S8192.size a
  k0_off1513_inb : ∀ k0_t123 : Fin k0_t123_loop.trips, ∀ (r : Fin 2), ∀ a, (k0_off1513 k0_t123 (BitVec.ofNat 32 (192 + 16 * r.val))) a + S16.size a ≤ S8192.size a
  k0_off1514_inb : ∀ k0_t123 : Fin k0_t123_loop.trips, ∀ (r : Fin 2), ∀ a, (k0_off1514 k0_t123 (BitVec.ofNat 32 (208 + 16 * r.val))) a + S16.size a ≤ S8192.size a
  k0_off1515_inb : ∀ k0_t123 : Fin k0_t123_loop.trips, ∀ (r : Fin 2), ∀ a, (k0_off1515 k0_t123 (BitVec.ofNat 32 (224 + 16 * r.val))) a + S16.size a ≤ S8192.size a
  k0_off1516_inb : ∀ k0_t123 : Fin k0_t123_loop.trips, ∀ a, (k0_off1516 k0_t123) a + S16.size a ≤ S8192.size a
  k0_off1517_inb : ∀ (i : grid0.Coords) (k0_t121 : Fin (k0_t121_loop i).trips), ∀ a, (k0_off1517 i k0_t121) a + S1x8192.size a ≤ S936x16384.size a
  k0_t124_ok : ∀ i : grid0.Coords, (k0_t124_loop i).OK
  k0_off1518_inb : ∀ (i : grid0.Coords) (k0_t124 : Fin (k0_t124_loop i).trips), ∀ a, (k0_off1518 i k0_t124) a + S1x100000.size a ≤ S36x100000.size a
  k0_t125_ok : k0_t125_loop.OK
  k0_off1519_inb : ∀ k0_t125 : Fin k0_t125_loop.trips, ∀ a, (k0_off1519 k0_t125) a + S16.size a ≤ S8192.size a
  k0_off1520_inb : ∀ k0_t125 : Fin k0_t125_loop.trips, ∀ (r : Fin 2), ∀ a, (k0_off1520 k0_t125 (BitVec.ofNat 32 (16 * r.val))) a + S16.size a ≤ S8192.size a
  k0_off1521_inb : ∀ k0_t125 : Fin k0_t125_loop.trips, ∀ (r : Fin 2), ∀ a, (k0_off1521 k0_t125 (BitVec.ofNat 32 (16 + 16 * r.val))) a + S16.size a ≤ S8192.size a
  k0_off1522_inb : ∀ k0_t125 : Fin k0_t125_loop.trips, ∀ (r : Fin 2), ∀ a, (k0_off1522 k0_t125 (BitVec.ofNat 32 (32 + 16 * r.val))) a + S16.size a ≤ S8192.size a
  k0_off1523_inb : ∀ k0_t125 : Fin k0_t125_loop.trips, ∀ (r : Fin 2), ∀ a, (k0_off1523 k0_t125 (BitVec.ofNat 32 (48 + 16 * r.val))) a + S16.size a ≤ S8192.size a
  k0_off1524_inb : ∀ k0_t125 : Fin k0_t125_loop.trips, ∀ (r : Fin 2), ∀ a, (k0_off1524 k0_t125 (BitVec.ofNat 32 (64 + 16 * r.val))) a + S16.size a ≤ S8192.size a
  k0_off1525_inb : ∀ k0_t125 : Fin k0_t125_loop.trips, ∀ (r : Fin 2), ∀ a, (k0_off1525 k0_t125 (BitVec.ofNat 32 (80 + 16 * r.val))) a + S16.size a ≤ S8192.size a
  k0_off1526_inb : ∀ k0_t125 : Fin k0_t125_loop.trips, ∀ (r : Fin 2), ∀ a, (k0_off1526 k0_t125 (BitVec.ofNat 32 (96 + 16 * r.val))) a + S16.size a ≤ S8192.size a
  k0_off1527_inb : ∀ k0_t125 : Fin k0_t125_loop.trips, ∀ (r : Fin 2), ∀ a, (k0_off1527 k0_t125 (BitVec.ofNat 32 (112 + 16 * r.val))) a + S16.size a ≤ S8192.size a
  k0_off1528_inb : ∀ k0_t125 : Fin k0_t125_loop.trips, ∀ (r : Fin 2), ∀ a, (k0_off1528 k0_t125 (BitVec.ofNat 32 (128 + 16 * r.val))) a + S16.size a ≤ S8192.size a
  k0_off1529_inb : ∀ k0_t125 : Fin k0_t125_loop.trips, ∀ (r : Fin 2), ∀ a, (k0_off1529 k0_t125 (BitVec.ofNat 32 (144 + 16 * r.val))) a + S16.size a ≤ S8192.size a
  k0_off1530_inb : ∀ k0_t125 : Fin k0_t125_loop.trips, ∀ (r : Fin 2), ∀ a, (k0_off1530 k0_t125 (BitVec.ofNat 32 (160 + 16 * r.val))) a + S16.size a ≤ S8192.size a
  k0_off1531_inb : ∀ k0_t125 : Fin k0_t125_loop.trips, ∀ (r : Fin 2), ∀ a, (k0_off1531 k0_t125 (BitVec.ofNat 32 (176 + 16 * r.val))) a + S16.size a ≤ S8192.size a
  k0_off1532_inb : ∀ k0_t125 : Fin k0_t125_loop.trips, ∀ (r : Fin 2), ∀ a, (k0_off1532 k0_t125 (BitVec.ofNat 32 (192 + 16 * r.val))) a + S16.size a ≤ S8192.size a
  k0_off1533_inb : ∀ k0_t125 : Fin k0_t125_loop.trips, ∀ (r : Fin 2), ∀ a, (k0_off1533 k0_t125 (BitVec.ofNat 32 (208 + 16 * r.val))) a + S16.size a ≤ S8192.size a
  k0_off1534_inb : ∀ k0_t125 : Fin k0_t125_loop.trips, ∀ (r : Fin 2), ∀ a, (k0_off1534 k0_t125 (BitVec.ofNat 32 (224 + 16 * r.val))) a + S16.size a ≤ S8192.size a
  k0_off1535_inb : ∀ k0_t125 : Fin k0_t125_loop.trips, ∀ a, (k0_off1535 k0_t125) a + S16.size a ≤ S8192.size a
  k0_off1536_inb : ∀ (i : grid0.Coords) (k0_t124 : Fin (k0_t124_loop i).trips), ∀ a, (k0_off1536 i k0_t124) a + S1x8192.size a ≤ S936x16384.size a
  k0_t126_ok : k0_t126_loop.OK
  k0_off1537_inb : ∀ k0_t126 : Fin k0_t126_loop.trips, ∀ a, (k0_off1537 k0_t126) a + S16.size a ≤ S8192.size a
  k0_off1538_inb : ∀ k0_t126 : Fin k0_t126_loop.trips, ∀ (r : Fin 2), ∀ a, (k0_off1538 k0_t126 (BitVec.ofNat 32 (16 * r.val))) a + S16.size a ≤ S8192.size a
  k0_off1539_inb : ∀ k0_t126 : Fin k0_t126_loop.trips, ∀ (r : Fin 2), ∀ a, (k0_off1539 k0_t126 (BitVec.ofNat 32 (16 + 16 * r.val))) a + S16.size a ≤ S8192.size a
  k0_off1540_inb : ∀ k0_t126 : Fin k0_t126_loop.trips, ∀ (r : Fin 2), ∀ a, (k0_off1540 k0_t126 (BitVec.ofNat 32 (32 + 16 * r.val))) a + S16.size a ≤ S8192.size a
  k0_off1541_inb : ∀ k0_t126 : Fin k0_t126_loop.trips, ∀ (r : Fin 2), ∀ a, (k0_off1541 k0_t126 (BitVec.ofNat 32 (48 + 16 * r.val))) a + S16.size a ≤ S8192.size a
  k0_off1542_inb : ∀ k0_t126 : Fin k0_t126_loop.trips, ∀ (r : Fin 2), ∀ a, (k0_off1542 k0_t126 (BitVec.ofNat 32 (64 + 16 * r.val))) a + S16.size a ≤ S8192.size a
  k0_off1543_inb : ∀ k0_t126 : Fin k0_t126_loop.trips, ∀ (r : Fin 2), ∀ a, (k0_off1543 k0_t126 (BitVec.ofNat 32 (80 + 16 * r.val))) a + S16.size a ≤ S8192.size a
  k0_off1544_inb : ∀ k0_t126 : Fin k0_t126_loop.trips, ∀ (r : Fin 2), ∀ a, (k0_off1544 k0_t126 (BitVec.ofNat 32 (96 + 16 * r.val))) a + S16.size a ≤ S8192.size a
  k0_off1545_inb : ∀ k0_t126 : Fin k0_t126_loop.trips, ∀ (r : Fin 2), ∀ a, (k0_off1545 k0_t126 (BitVec.ofNat 32 (112 + 16 * r.val))) a + S16.size a ≤ S8192.size a
  k0_off1546_inb : ∀ k0_t126 : Fin k0_t126_loop.trips, ∀ (r : Fin 2), ∀ a, (k0_off1546 k0_t126 (BitVec.ofNat 32 (128 + 16 * r.val))) a + S16.size a ≤ S8192.size a
  k0_off1547_inb : ∀ k0_t126 : Fin k0_t126_loop.trips, ∀ (r : Fin 2), ∀ a, (k0_off1547 k0_t126 (BitVec.ofNat 32 (144 + 16 * r.val))) a + S16.size a ≤ S8192.size a
  k0_off1548_inb : ∀ k0_t126 : Fin k0_t126_loop.trips, ∀ (r : Fin 2), ∀ a, (k0_off1548 k0_t126 (BitVec.ofNat 32 (160 + 16 * r.val))) a + S16.size a ≤ S8192.size a
  k0_off1549_inb : ∀ k0_t126 : Fin k0_t126_loop.trips, ∀ (r : Fin 2), ∀ a, (k0_off1549 k0_t126 (BitVec.ofNat 32 (176 + 16 * r.val))) a + S16.size a ≤ S8192.size a
  k0_off1550_inb : ∀ k0_t126 : Fin k0_t126_loop.trips, ∀ (r : Fin 2), ∀ a, (k0_off1550 k0_t126 (BitVec.ofNat 32 (192 + 16 * r.val))) a + S16.size a ≤ S8192.size a
  k0_off1551_inb : ∀ k0_t126 : Fin k0_t126_loop.trips, ∀ (r : Fin 2), ∀ a, (k0_off1551 k0_t126 (BitVec.ofNat 32 (208 + 16 * r.val))) a + S16.size a ≤ S8192.size a
  k0_off1552_inb : ∀ k0_t126 : Fin k0_t126_loop.trips, ∀ (r : Fin 2), ∀ a, (k0_off1552 k0_t126 (BitVec.ofNat 32 (224 + 16 * r.val))) a + S16.size a ≤ S8192.size a
  k0_off1553_inb : ∀ k0_t126 : Fin k0_t126_loop.trips, ∀ a, (k0_off1553 k0_t126) a + S16.size a ≤ S8192.size a
  k0_off1554_inb : ∀ (i : grid0.Coords) (k0_t124 : Fin (k0_t124_loop i).trips), ∀ a, (k0_off1554 i k0_t124) a + S1x8192.size a ≤ S936x16384.size a
  k0_t127_ok : ∀ i : grid0.Coords, (k0_t127_loop i).OK
  k0_off1555_inb : ∀ (i : grid0.Coords) (k0_t127 : Fin (k0_t127_loop i).trips), ∀ a, (k0_off1555 i k0_t127) a + S1x100000.size a ≤ S36x100000.size a
  k0_t128_ok : k0_t128_loop.OK
  k0_off1556_inb : ∀ k0_t128 : Fin k0_t128_loop.trips, ∀ a, (k0_off1556 k0_t128) a + S16.size a ≤ S8192.size a
  k0_off1557_inb : ∀ k0_t128 : Fin k0_t128_loop.trips, ∀ (r : Fin 2), ∀ a, (k0_off1557 k0_t128 (BitVec.ofNat 32 (16 * r.val))) a + S16.size a ≤ S8192.size a
  k0_off1558_inb : ∀ k0_t128 : Fin k0_t128_loop.trips, ∀ (r : Fin 2), ∀ a, (k0_off1558 k0_t128 (BitVec.ofNat 32 (16 + 16 * r.val))) a + S16.size a ≤ S8192.size a
  k0_off1559_inb : ∀ k0_t128 : Fin k0_t128_loop.trips, ∀ (r : Fin 2), ∀ a, (k0_off1559 k0_t128 (BitVec.ofNat 32 (32 + 16 * r.val))) a + S16.size a ≤ S8192.size a
  k0_off1560_inb : ∀ k0_t128 : Fin k0_t128_loop.trips, ∀ (r : Fin 2), ∀ a, (k0_off1560 k0_t128 (BitVec.ofNat 32 (48 + 16 * r.val))) a + S16.size a ≤ S8192.size a
  k0_off1561_inb : ∀ k0_t128 : Fin k0_t128_loop.trips, ∀ (r : Fin 2), ∀ a, (k0_off1561 k0_t128 (BitVec.ofNat 32 (64 + 16 * r.val))) a + S16.size a ≤ S8192.size a
  k0_off1562_inb : ∀ k0_t128 : Fin k0_t128_loop.trips, ∀ (r : Fin 2), ∀ a, (k0_off1562 k0_t128 (BitVec.ofNat 32 (80 + 16 * r.val))) a + S16.size a ≤ S8192.size a
  k0_off1563_inb : ∀ k0_t128 : Fin k0_t128_loop.trips, ∀ (r : Fin 2), ∀ a, (k0_off1563 k0_t128 (BitVec.ofNat 32 (96 + 16 * r.val))) a + S16.size a ≤ S8192.size a
  k0_off1564_inb : ∀ k0_t128 : Fin k0_t128_loop.trips, ∀ (r : Fin 2), ∀ a, (k0_off1564 k0_t128 (BitVec.ofNat 32 (112 + 16 * r.val))) a + S16.size a ≤ S8192.size a
  k0_off1565_inb : ∀ k0_t128 : Fin k0_t128_loop.trips, ∀ (r : Fin 2), ∀ a, (k0_off1565 k0_t128 (BitVec.ofNat 32 (128 + 16 * r.val))) a + S16.size a ≤ S8192.size a
  k0_off1566_inb : ∀ k0_t128 : Fin k0_t128_loop.trips, ∀ (r : Fin 2), ∀ a, (k0_off1566 k0_t128 (BitVec.ofNat 32 (144 + 16 * r.val))) a + S16.size a ≤ S8192.size a
  k0_off1567_inb : ∀ k0_t128 : Fin k0_t128_loop.trips, ∀ (r : Fin 2), ∀ a, (k0_off1567 k0_t128 (BitVec.ofNat 32 (160 + 16 * r.val))) a + S16.size a ≤ S8192.size a
  k0_off1568_inb : ∀ k0_t128 : Fin k0_t128_loop.trips, ∀ (r : Fin 2), ∀ a, (k0_off1568 k0_t128 (BitVec.ofNat 32 (176 + 16 * r.val))) a + S16.size a ≤ S8192.size a
  k0_off1569_inb : ∀ k0_t128 : Fin k0_t128_loop.trips, ∀ (r : Fin 2), ∀ a, (k0_off1569 k0_t128 (BitVec.ofNat 32 (192 + 16 * r.val))) a + S16.size a ≤ S8192.size a
  k0_off1570_inb : ∀ k0_t128 : Fin k0_t128_loop.trips, ∀ (r : Fin 2), ∀ a, (k0_off1570 k0_t128 (BitVec.ofNat 32 (208 + 16 * r.val))) a + S16.size a ≤ S8192.size a
  k0_off1571_inb : ∀ k0_t128 : Fin k0_t128_loop.trips, ∀ (r : Fin 2), ∀ a, (k0_off1571 k0_t128 (BitVec.ofNat 32 (224 + 16 * r.val))) a + S16.size a ≤ S8192.size a
  k0_off1572_inb : ∀ k0_t128 : Fin k0_t128_loop.trips, ∀ a, (k0_off1572 k0_t128) a + S16.size a ≤ S8192.size a
  k0_off1573_inb : ∀ (i : grid0.Coords) (k0_t127 : Fin (k0_t127_loop i).trips), ∀ a, (k0_off1573 i k0_t127) a + S1x8192.size a ≤ S936x16384.size a
  k0_t129_ok : k0_t129_loop.OK
  k0_off1574_inb : ∀ k0_t129 : Fin k0_t129_loop.trips, ∀ a, (k0_off1574 k0_t129) a + S16.size a ≤ S8192.size a
  k0_off1575_inb : ∀ k0_t129 : Fin k0_t129_loop.trips, ∀ (r : Fin 2), ∀ a, (k0_off1575 k0_t129 (BitVec.ofNat 32 (16 * r.val))) a + S16.size a ≤ S8192.size a
  k0_off1576_inb : ∀ k0_t129 : Fin k0_t129_loop.trips, ∀ (r : Fin 2), ∀ a, (k0_off1576 k0_t129 (BitVec.ofNat 32 (16 + 16 * r.val))) a + S16.size a ≤ S8192.size a
  k0_off1577_inb : ∀ k0_t129 : Fin k0_t129_loop.trips, ∀ (r : Fin 2), ∀ a, (k0_off1577 k0_t129 (BitVec.ofNat 32 (32 + 16 * r.val))) a + S16.size a ≤ S8192.size a
  k0_off1578_inb : ∀ k0_t129 : Fin k0_t129_loop.trips, ∀ (r : Fin 2), ∀ a, (k0_off1578 k0_t129 (BitVec.ofNat 32 (48 + 16 * r.val))) a + S16.size a ≤ S8192.size a
  k0_off1579_inb : ∀ k0_t129 : Fin k0_t129_loop.trips, ∀ (r : Fin 2), ∀ a, (k0_off1579 k0_t129 (BitVec.ofNat 32 (64 + 16 * r.val))) a + S16.size a ≤ S8192.size a
  k0_off1580_inb : ∀ k0_t129 : Fin k0_t129_loop.trips, ∀ (r : Fin 2), ∀ a, (k0_off1580 k0_t129 (BitVec.ofNat 32 (80 + 16 * r.val))) a + S16.size a ≤ S8192.size a
  k0_off1581_inb : ∀ k0_t129 : Fin k0_t129_loop.trips, ∀ (r : Fin 2), ∀ a, (k0_off1581 k0_t129 (BitVec.ofNat 32 (96 + 16 * r.val))) a + S16.size a ≤ S8192.size a
  k0_off1582_inb : ∀ k0_t129 : Fin k0_t129_loop.trips, ∀ (r : Fin 2), ∀ a, (k0_off1582 k0_t129 (BitVec.ofNat 32 (112 + 16 * r.val))) a + S16.size a ≤ S8192.size a
  k0_off1583_inb : ∀ k0_t129 : Fin k0_t129_loop.trips, ∀ (r : Fin 2), ∀ a, (k0_off1583 k0_t129 (BitVec.ofNat 32 (128 + 16 * r.val))) a + S16.size a ≤ S8192.size a
  k0_off1584_inb : ∀ k0_t129 : Fin k0_t129_loop.trips, ∀ (r : Fin 2), ∀ a, (k0_off1584 k0_t129 (BitVec.ofNat 32 (144 + 16 * r.val))) a + S16.size a ≤ S8192.size a
  k0_off1585_inb : ∀ k0_t129 : Fin k0_t129_loop.trips, ∀ (r : Fin 2), ∀ a, (k0_off1585 k0_t129 (BitVec.ofNat 32 (160 + 16 * r.val))) a + S16.size a ≤ S8192.size a
  k0_off1586_inb : ∀ k0_t129 : Fin k0_t129_loop.trips, ∀ (r : Fin 2), ∀ a, (k0_off1586 k0_t129 (BitVec.ofNat 32 (176 + 16 * r.val))) a + S16.size a ≤ S8192.size a
  k0_off1587_inb : ∀ k0_t129 : Fin k0_t129_loop.trips, ∀ (r : Fin 2), ∀ a, (k0_off1587 k0_t129 (BitVec.ofNat 32 (192 + 16 * r.val))) a + S16.size a ≤ S8192.size a
  k0_off1588_inb : ∀ k0_t129 : Fin k0_t129_loop.trips, ∀ (r : Fin 2), ∀ a, (k0_off1588 k0_t129 (BitVec.ofNat 32 (208 + 16 * r.val))) a + S16.size a ≤ S8192.size a
  k0_off1589_inb : ∀ k0_t129 : Fin k0_t129_loop.trips, ∀ (r : Fin 2), ∀ a, (k0_off1589 k0_t129 (BitVec.ofNat 32 (224 + 16 * r.val))) a + S16.size a ≤ S8192.size a
  k0_off1590_inb : ∀ k0_t129 : Fin k0_t129_loop.trips, ∀ a, (k0_off1590 k0_t129) a + S16.size a ≤ S8192.size a
  k0_off1591_inb : ∀ (i : grid0.Coords) (k0_t127 : Fin (k0_t127_loop i).trips), ∀ a, (k0_off1591 i k0_t127) a + S1x8192.size a ≤ S936x16384.size a
  k0_t130_ok : ∀ i : grid0.Coords, (k0_t130_loop i).OK
  k0_off1592_inb : ∀ (i : grid0.Coords) (k0_t130 : Fin (k0_t130_loop i).trips), ∀ a, (k0_off1592 i k0_t130) a + S1x100000.size a ≤ S36x100000.size a
  k0_t131_ok : k0_t131_loop.OK
  k0_off1593_inb : ∀ k0_t131 : Fin k0_t131_loop.trips, ∀ a, (k0_off1593 k0_t131) a + S16.size a ≤ S8192.size a
  k0_off1594_inb : ∀ k0_t131 : Fin k0_t131_loop.trips, ∀ (r : Fin 2), ∀ a, (k0_off1594 k0_t131 (BitVec.ofNat 32 (16 * r.val))) a + S16.size a ≤ S8192.size a
  k0_off1595_inb : ∀ k0_t131 : Fin k0_t131_loop.trips, ∀ (r : Fin 2), ∀ a, (k0_off1595 k0_t131 (BitVec.ofNat 32 (16 + 16 * r.val))) a + S16.size a ≤ S8192.size a
  k0_off1596_inb : ∀ k0_t131 : Fin k0_t131_loop.trips, ∀ (r : Fin 2), ∀ a, (k0_off1596 k0_t131 (BitVec.ofNat 32 (32 + 16 * r.val))) a + S16.size a ≤ S8192.size a
  k0_off1597_inb : ∀ k0_t131 : Fin k0_t131_loop.trips, ∀ (r : Fin 2), ∀ a, (k0_off1597 k0_t131 (BitVec.ofNat 32 (48 + 16 * r.val))) a + S16.size a ≤ S8192.size a
  k0_off1598_inb : ∀ k0_t131 : Fin k0_t131_loop.trips, ∀ (r : Fin 2), ∀ a, (k0_off1598 k0_t131 (BitVec.ofNat 32 (64 + 16 * r.val))) a + S16.size a ≤ S8192.size a
  k0_off1599_inb : ∀ k0_t131 : Fin k0_t131_loop.trips, ∀ (r : Fin 2), ∀ a, (k0_off1599 k0_t131 (BitVec.ofNat 32 (80 + 16 * r.val))) a + S16.size a ≤ S8192.size a
  k0_off1600_inb : ∀ k0_t131 : Fin k0_t131_loop.trips, ∀ (r : Fin 2), ∀ a, (k0_off1600 k0_t131 (BitVec.ofNat 32 (96 + 16 * r.val))) a + S16.size a ≤ S8192.size a
  k0_off1601_inb : ∀ k0_t131 : Fin k0_t131_loop.trips, ∀ (r : Fin 2), ∀ a, (k0_off1601 k0_t131 (BitVec.ofNat 32 (112 + 16 * r.val))) a + S16.size a ≤ S8192.size a
  k0_off1602_inb : ∀ k0_t131 : Fin k0_t131_loop.trips, ∀ (r : Fin 2), ∀ a, (k0_off1602 k0_t131 (BitVec.ofNat 32 (128 + 16 * r.val))) a + S16.size a ≤ S8192.size a
  k0_off1603_inb : ∀ k0_t131 : Fin k0_t131_loop.trips, ∀ (r : Fin 2), ∀ a, (k0_off1603 k0_t131 (BitVec.ofNat 32 (144 + 16 * r.val))) a + S16.size a ≤ S8192.size a
  k0_off1604_inb : ∀ k0_t131 : Fin k0_t131_loop.trips, ∀ (r : Fin 2), ∀ a, (k0_off1604 k0_t131 (BitVec.ofNat 32 (160 + 16 * r.val))) a + S16.size a ≤ S8192.size a
  k0_off1605_inb : ∀ k0_t131 : Fin k0_t131_loop.trips, ∀ (r : Fin 2), ∀ a, (k0_off1605 k0_t131 (BitVec.ofNat 32 (176 + 16 * r.val))) a + S16.size a ≤ S8192.size a
  k0_off1606_inb : ∀ k0_t131 : Fin k0_t131_loop.trips, ∀ (r : Fin 2), ∀ a, (k0_off1606 k0_t131 (BitVec.ofNat 32 (192 + 16 * r.val))) a + S16.size a ≤ S8192.size a
  k0_off1607_inb : ∀ k0_t131 : Fin k0_t131_loop.trips, ∀ (r : Fin 2), ∀ a, (k0_off1607 k0_t131 (BitVec.ofNat 32 (208 + 16 * r.val))) a + S16.size a ≤ S8192.size a
  k0_off1608_inb : ∀ k0_t131 : Fin k0_t131_loop.trips, ∀ (r : Fin 2), ∀ a, (k0_off1608 k0_t131 (BitVec.ofNat 32 (224 + 16 * r.val))) a + S16.size a ≤ S8192.size a
  k0_off1609_inb : ∀ k0_t131 : Fin k0_t131_loop.trips, ∀ a, (k0_off1609 k0_t131) a + S16.size a ≤ S8192.size a
  k0_off1610_inb : ∀ (i : grid0.Coords) (k0_t130 : Fin (k0_t130_loop i).trips), ∀ a, (k0_off1610 i k0_t130) a + S1x8192.size a ≤ S936x16384.size a
  k0_t132_ok : k0_t132_loop.OK
  k0_off1611_inb : ∀ k0_t132 : Fin k0_t132_loop.trips, ∀ a, (k0_off1611 k0_t132) a + S16.size a ≤ S8192.size a
  k0_off1612_inb : ∀ k0_t132 : Fin k0_t132_loop.trips, ∀ (r : Fin 2), ∀ a, (k0_off1612 k0_t132 (BitVec.ofNat 32 (16 * r.val))) a + S16.size a ≤ S8192.size a
  k0_off1613_inb : ∀ k0_t132 : Fin k0_t132_loop.trips, ∀ (r : Fin 2), ∀ a, (k0_off1613 k0_t132 (BitVec.ofNat 32 (16 + 16 * r.val))) a + S16.size a ≤ S8192.size a
  k0_off1614_inb : ∀ k0_t132 : Fin k0_t132_loop.trips, ∀ (r : Fin 2), ∀ a, (k0_off1614 k0_t132 (BitVec.ofNat 32 (32 + 16 * r.val))) a + S16.size a ≤ S8192.size a
  k0_off1615_inb : ∀ k0_t132 : Fin k0_t132_loop.trips, ∀ (r : Fin 2), ∀ a, (k0_off1615 k0_t132 (BitVec.ofNat 32 (48 + 16 * r.val))) a + S16.size a ≤ S8192.size a
  k0_off1616_inb : ∀ k0_t132 : Fin k0_t132_loop.trips, ∀ (r : Fin 2), ∀ a, (k0_off1616 k0_t132 (BitVec.ofNat 32 (64 + 16 * r.val))) a + S16.size a ≤ S8192.size a
  k0_off1617_inb : ∀ k0_t132 : Fin k0_t132_loop.trips, ∀ (r : Fin 2), ∀ a, (k0_off1617 k0_t132 (BitVec.ofNat 32 (80 + 16 * r.val))) a + S16.size a ≤ S8192.size a
  k0_off1618_inb : ∀ k0_t132 : Fin k0_t132_loop.trips, ∀ (r : Fin 2), ∀ a, (k0_off1618 k0_t132 (BitVec.ofNat 32 (96 + 16 * r.val))) a + S16.size a ≤ S8192.size a
  k0_off1619_inb : ∀ k0_t132 : Fin k0_t132_loop.trips, ∀ (r : Fin 2), ∀ a, (k0_off1619 k0_t132 (BitVec.ofNat 32 (112 + 16 * r.val))) a + S16.size a ≤ S8192.size a
  k0_off1620_inb : ∀ k0_t132 : Fin k0_t132_loop.trips, ∀ (r : Fin 2), ∀ a, (k0_off1620 k0_t132 (BitVec.ofNat 32 (128 + 16 * r.val))) a + S16.size a ≤ S8192.size a
  k0_off1621_inb : ∀ k0_t132 : Fin k0_t132_loop.trips, ∀ (r : Fin 2), ∀ a, (k0_off1621 k0_t132 (BitVec.ofNat 32 (144 + 16 * r.val))) a + S16.size a ≤ S8192.size a
  k0_off1622_inb : ∀ k0_t132 : Fin k0_t132_loop.trips, ∀ (r : Fin 2), ∀ a, (k0_off1622 k0_t132 (BitVec.ofNat 32 (160 + 16 * r.val))) a + S16.size a ≤ S8192.size a
  k0_off1623_inb : ∀ k0_t132 : Fin k0_t132_loop.trips, ∀ (r : Fin 2), ∀ a, (k0_off1623 k0_t132 (BitVec.ofNat 32 (176 + 16 * r.val))) a + S16.size a ≤ S8192.size a
  k0_off1624_inb : ∀ k0_t132 : Fin k0_t132_loop.trips, ∀ (r : Fin 2), ∀ a, (k0_off1624 k0_t132 (BitVec.ofNat 32 (192 + 16 * r.val))) a + S16.size a ≤ S8192.size a
  k0_off1625_inb : ∀ k0_t132 : Fin k0_t132_loop.trips, ∀ (r : Fin 2), ∀ a, (k0_off1625 k0_t132 (BitVec.ofNat 32 (208 + 16 * r.val))) a + S16.size a ≤ S8192.size a
  k0_off1626_inb : ∀ k0_t132 : Fin k0_t132_loop.trips, ∀ (r : Fin 2), ∀ a, (k0_off1626 k0_t132 (BitVec.ofNat 32 (224 + 16 * r.val))) a + S16.size a ≤ S8192.size a
  k0_off1627_inb : ∀ k0_t132 : Fin k0_t132_loop.trips, ∀ a, (k0_off1627 k0_t132) a + S16.size a ≤ S8192.size a
  k0_off1628_inb : ∀ (i : grid0.Coords) (k0_t130 : Fin (k0_t130_loop i).trips), ∀ a, (k0_off1628 i k0_t130) a + S1x8192.size a ≤ S936x16384.size a
  k0_t133_ok : ∀ i : grid0.Coords, (k0_t133_loop i).OK
  k0_off1629_inb : ∀ (i : grid0.Coords) (k0_t133 : Fin (k0_t133_loop i).trips), ∀ a, (k0_off1629 i k0_t133) a + S1x100000.size a ≤ S36x100000.size a
  k0_t134_ok : k0_t134_loop.OK
  k0_off1630_inb : ∀ k0_t134 : Fin k0_t134_loop.trips, ∀ a, (k0_off1630 k0_t134) a + S16.size a ≤ S8192.size a
  k0_off1631_inb : ∀ k0_t134 : Fin k0_t134_loop.trips, ∀ (r : Fin 2), ∀ a, (k0_off1631 k0_t134 (BitVec.ofNat 32 (16 * r.val))) a + S16.size a ≤ S8192.size a
  k0_off1632_inb : ∀ k0_t134 : Fin k0_t134_loop.trips, ∀ (r : Fin 2), ∀ a, (k0_off1632 k0_t134 (BitVec.ofNat 32 (16 + 16 * r.val))) a + S16.size a ≤ S8192.size a
  k0_off1633_inb : ∀ k0_t134 : Fin k0_t134_loop.trips, ∀ (r : Fin 2), ∀ a, (k0_off1633 k0_t134 (BitVec.ofNat 32 (32 + 16 * r.val))) a + S16.size a ≤ S8192.size a
  k0_off1634_inb : ∀ k0_t134 : Fin k0_t134_loop.trips, ∀ (r : Fin 2), ∀ a, (k0_off1634 k0_t134 (BitVec.ofNat 32 (48 + 16 * r.val))) a + S16.size a ≤ S8192.size a
  k0_off1635_inb : ∀ k0_t134 : Fin k0_t134_loop.trips, ∀ (r : Fin 2), ∀ a, (k0_off1635 k0_t134 (BitVec.ofNat 32 (64 + 16 * r.val))) a + S16.size a ≤ S8192.size a
  k0_off1636_inb : ∀ k0_t134 : Fin k0_t134_loop.trips, ∀ (r : Fin 2), ∀ a, (k0_off1636 k0_t134 (BitVec.ofNat 32 (80 + 16 * r.val))) a + S16.size a ≤ S8192.size a
  k0_off1637_inb : ∀ k0_t134 : Fin k0_t134_loop.trips, ∀ (r : Fin 2), ∀ a, (k0_off1637 k0_t134 (BitVec.ofNat 32 (96 + 16 * r.val))) a + S16.size a ≤ S8192.size a
  k0_off1638_inb : ∀ k0_t134 : Fin k0_t134_loop.trips, ∀ (r : Fin 2), ∀ a, (k0_off1638 k0_t134 (BitVec.ofNat 32 (112 + 16 * r.val))) a + S16.size a ≤ S8192.size a
  k0_off1639_inb : ∀ k0_t134 : Fin k0_t134_loop.trips, ∀ (r : Fin 2), ∀ a, (k0_off1639 k0_t134 (BitVec.ofNat 32 (128 + 16 * r.val))) a + S16.size a ≤ S8192.size a
  k0_off1640_inb : ∀ k0_t134 : Fin k0_t134_loop.trips, ∀ (r : Fin 2), ∀ a, (k0_off1640 k0_t134 (BitVec.ofNat 32 (144 + 16 * r.val))) a + S16.size a ≤ S8192.size a
  k0_off1641_inb : ∀ k0_t134 : Fin k0_t134_loop.trips, ∀ (r : Fin 2), ∀ a, (k0_off1641 k0_t134 (BitVec.ofNat 32 (160 + 16 * r.val))) a + S16.size a ≤ S8192.size a
  k0_off1642_inb : ∀ k0_t134 : Fin k0_t134_loop.trips, ∀ (r : Fin 2), ∀ a, (k0_off1642 k0_t134 (BitVec.ofNat 32 (176 + 16 * r.val))) a + S16.size a ≤ S8192.size a
  k0_off1643_inb : ∀ k0_t134 : Fin k0_t134_loop.trips, ∀ (r : Fin 2), ∀ a, (k0_off1643 k0_t134 (BitVec.ofNat 32 (192 + 16 * r.val))) a + S16.size a ≤ S8192.size a
  k0_off1644_inb : ∀ k0_t134 : Fin k0_t134_loop.trips, ∀ (r : Fin 2), ∀ a, (k0_off1644 k0_t134 (BitVec.ofNat 32 (208 + 16 * r.val))) a + S16.size a ≤ S8192.size a
  k0_off1645_inb : ∀ k0_t134 : Fin k0_t134_loop.trips, ∀ (r : Fin 2), ∀ a, (k0_off1645 k0_t134 (BitVec.ofNat 32 (224 + 16 * r.val))) a + S16.size a ≤ S8192.size a
  k0_off1646_inb : ∀ k0_t134 : Fin k0_t134_loop.trips, ∀ a, (k0_off1646 k0_t134) a + S16.size a ≤ S8192.size a
  k0_off1647_inb : ∀ (i : grid0.Coords) (k0_t133 : Fin (k0_t133_loop i).trips), ∀ a, (k0_off1647 i k0_t133) a + S1x8192.size a ≤ S936x16384.size a
  k0_t135_ok : k0_t135_loop.OK
  k0_off1648_inb : ∀ k0_t135 : Fin k0_t135_loop.trips, ∀ a, (k0_off1648 k0_t135) a + S16.size a ≤ S8192.size a
  k0_off1649_inb : ∀ k0_t135 : Fin k0_t135_loop.trips, ∀ (r : Fin 2), ∀ a, (k0_off1649 k0_t135 (BitVec.ofNat 32 (16 * r.val))) a + S16.size a ≤ S8192.size a
  k0_off1650_inb : ∀ k0_t135 : Fin k0_t135_loop.trips, ∀ (r : Fin 2), ∀ a, (k0_off1650 k0_t135 (BitVec.ofNat 32 (16 + 16 * r.val))) a + S16.size a ≤ S8192.size a
  k0_off1651_inb : ∀ k0_t135 : Fin k0_t135_loop.trips, ∀ (r : Fin 2), ∀ a, (k0_off1651 k0_t135 (BitVec.ofNat 32 (32 + 16 * r.val))) a + S16.size a ≤ S8192.size a
  k0_off1652_inb : ∀ k0_t135 : Fin k0_t135_loop.trips, ∀ (r : Fin 2), ∀ a, (k0_off1652 k0_t135 (BitVec.ofNat 32 (48 + 16 * r.val))) a + S16.size a ≤ S8192.size a
  k0_off1653_inb : ∀ k0_t135 : Fin k0_t135_loop.trips, ∀ (r : Fin 2), ∀ a, (k0_off1653 k0_t135 (BitVec.ofNat 32 (64 + 16 * r.val))) a + S16.size a ≤ S8192.size a
  k0_off1654_inb : ∀ k0_t135 : Fin k0_t135_loop.trips, ∀ (r : Fin 2), ∀ a, (k0_off1654 k0_t135 (BitVec.ofNat 32 (80 + 16 * r.val))) a + S16.size a ≤ S8192.size a
  k0_off1655_inb : ∀ k0_t135 : Fin k0_t135_loop.trips, ∀ (r : Fin 2), ∀ a, (k0_off1655 k0_t135 (BitVec.ofNat 32 (96 + 16 * r.val))) a + S16.size a ≤ S8192.size a
  k0_off1656_inb : ∀ k0_t135 : Fin k0_t135_loop.trips, ∀ (r : Fin 2), ∀ a, (k0_off1656 k0_t135 (BitVec.ofNat 32 (112 + 16 * r.val))) a + S16.size a ≤ S8192.size a
  k0_off1657_inb : ∀ k0_t135 : Fin k0_t135_loop.trips, ∀ (r : Fin 2), ∀ a, (k0_off1657 k0_t135 (BitVec.ofNat 32 (128 + 16 * r.val))) a + S16.size a ≤ S8192.size a
  k0_off1658_inb : ∀ k0_t135 : Fin k0_t135_loop.trips, ∀ (r : Fin 2), ∀ a, (k0_off1658 k0_t135 (BitVec.ofNat 32 (144 + 16 * r.val))) a + S16.size a ≤ S8192.size a
  k0_off1659_inb : ∀ k0_t135 : Fin k0_t135_loop.trips, ∀ (r : Fin 2), ∀ a, (k0_off1659 k0_t135 (BitVec.ofNat 32 (160 + 16 * r.val))) a + S16.size a ≤ S8192.size a
  k0_off1660_inb : ∀ k0_t135 : Fin k0_t135_loop.trips, ∀ (r : Fin 2), ∀ a, (k0_off1660 k0_t135 (BitVec.ofNat 32 (176 + 16 * r.val))) a + S16.size a ≤ S8192.size a
  k0_off1661_inb : ∀ k0_t135 : Fin k0_t135_loop.trips, ∀ (r : Fin 2), ∀ a, (k0_off1661 k0_t135 (BitVec.ofNat 32 (192 + 16 * r.val))) a + S16.size a ≤ S8192.size a
  k0_off1662_inb : ∀ k0_t135 : Fin k0_t135_loop.trips, ∀ (r : Fin 2), ∀ a, (k0_off1662 k0_t135 (BitVec.ofNat 32 (208 + 16 * r.val))) a + S16.size a ≤ S8192.size a
  k0_off1663_inb : ∀ k0_t135 : Fin k0_t135_loop.trips, ∀ (r : Fin 2), ∀ a, (k0_off1663 k0_t135 (BitVec.ofNat 32 (224 + 16 * r.val))) a + S16.size a ≤ S8192.size a
  k0_off1664_inb : ∀ k0_t135 : Fin k0_t135_loop.trips, ∀ a, (k0_off1664 k0_t135) a + S16.size a ≤ S8192.size a
  k0_off1665_inb : ∀ (i : grid0.Coords) (k0_t133 : Fin (k0_t133_loop i).trips), ∀ a, (k0_off1665 i k0_t133) a + S1x8192.size a ≤ S936x16384.size a
  k0_t136_ok : ∀ i : grid0.Coords, (k0_t136_loop i).OK
  k0_off1666_inb : ∀ (i : grid0.Coords) (k0_t136 : Fin (k0_t136_loop i).trips), ∀ a, (k0_off1666 i k0_t136) a + S1x100000.size a ≤ S36x100000.size a
  k0_t137_ok : k0_t137_loop.OK
  k0_off1667_inb : ∀ k0_t137 : Fin k0_t137_loop.trips, ∀ a, (k0_off1667 k0_t137) a + S16.size a ≤ S8192.size a
  k0_off1668_inb : ∀ k0_t137 : Fin k0_t137_loop.trips, ∀ (r : Fin 2), ∀ a, (k0_off1668 k0_t137 (BitVec.ofNat 32 (16 * r.val))) a + S16.size a ≤ S8192.size a
  k0_off1669_inb : ∀ k0_t137 : Fin k0_t137_loop.trips, ∀ (r : Fin 2), ∀ a, (k0_off1669 k0_t137 (BitVec.ofNat 32 (16 + 16 * r.val))) a + S16.size a ≤ S8192.size a
  k0_off1670_inb : ∀ k0_t137 : Fin k0_t137_loop.trips, ∀ (r : Fin 2), ∀ a, (k0_off1670 k0_t137 (BitVec.ofNat 32 (32 + 16 * r.val))) a + S16.size a ≤ S8192.size a
  k0_off1671_inb : ∀ k0_t137 : Fin k0_t137_loop.trips, ∀ (r : Fin 2), ∀ a, (k0_off1671 k0_t137 (BitVec.ofNat 32 (48 + 16 * r.val))) a + S16.size a ≤ S8192.size a
  k0_off1672_inb : ∀ k0_t137 : Fin k0_t137_loop.trips, ∀ (r : Fin 2), ∀ a, (k0_off1672 k0_t137 (BitVec.ofNat 32 (64 + 16 * r.val))) a + S16.size a ≤ S8192.size a
  k0_off1673_inb : ∀ k0_t137 : Fin k0_t137_loop.trips, ∀ (r : Fin 2), ∀ a, (k0_off1673 k0_t137 (BitVec.ofNat 32 (80 + 16 * r.val))) a + S16.size a ≤ S8192.size a
  k0_off1674_inb : ∀ k0_t137 : Fin k0_t137_loop.trips, ∀ (r : Fin 2), ∀ a, (k0_off1674 k0_t137 (BitVec.ofNat 32 (96 + 16 * r.val))) a + S16.size a ≤ S8192.size a
  k0_off1675_inb : ∀ k0_t137 : Fin k0_t137_loop.trips, ∀ (r : Fin 2), ∀ a, (k0_off1675 k0_t137 (BitVec.ofNat 32 (112 + 16 * r.val))) a + S16.size a ≤ S8192.size a
  k0_off1676_inb : ∀ k0_t137 : Fin k0_t137_loop.trips, ∀ (r : Fin 2), ∀ a, (k0_off1676 k0_t137 (BitVec.ofNat 32 (128 + 16 * r.val))) a + S16.size a ≤ S8192.size a
  k0_off1677_inb : ∀ k0_t137 : Fin k0_t137_loop.trips, ∀ (r : Fin 2), ∀ a, (k0_off1677 k0_t137 (BitVec.ofNat 32 (144 + 16 * r.val))) a + S16.size a ≤ S8192.size a
  k0_off1678_inb : ∀ k0_t137 : Fin k0_t137_loop.trips, ∀ (r : Fin 2), ∀ a, (k0_off1678 k0_t137 (BitVec.ofNat 32 (160 + 16 * r.val))) a + S16.size a ≤ S8192.size a
  k0_off1679_inb : ∀ k0_t137 : Fin k0_t137_loop.trips, ∀ (r : Fin 2), ∀ a, (k0_off1679 k0_t137 (BitVec.ofNat 32 (176 + 16 * r.val))) a + S16.size a ≤ S8192.size a
  k0_off1680_inb : ∀ k0_t137 : Fin k0_t137_loop.trips, ∀ (r : Fin 2), ∀ a, (k0_off1680 k0_t137 (BitVec.ofNat 32 (192 + 16 * r.val))) a + S16.size a ≤ S8192.size a
  k0_off1681_inb : ∀ k0_t137 : Fin k0_t137_loop.trips, ∀ (r : Fin 2), ∀ a, (k0_off1681 k0_t137 (BitVec.ofNat 32 (208 + 16 * r.val))) a + S16.size a ≤ S8192.size a
  k0_off1682_inb : ∀ k0_t137 : Fin k0_t137_loop.trips, ∀ (r : Fin 2), ∀ a, (k0_off1682 k0_t137 (BitVec.ofNat 32 (224 + 16 * r.val))) a + S16.size a ≤ S8192.size a
  k0_off1683_inb : ∀ k0_t137 : Fin k0_t137_loop.trips, ∀ a, (k0_off1683 k0_t137) a + S16.size a ≤ S8192.size a
  k0_off1684_inb : ∀ (i : grid0.Coords) (k0_t136 : Fin (k0_t136_loop i).trips), ∀ a, (k0_off1684 i k0_t136) a + S1x8192.size a ≤ S936x16384.size a
  k0_t138_ok : k0_t138_loop.OK
  k0_off1685_inb : ∀ k0_t138 : Fin k0_t138_loop.trips, ∀ a, (k0_off1685 k0_t138) a + S16.size a ≤ S8192.size a
  k0_off1686_inb : ∀ k0_t138 : Fin k0_t138_loop.trips, ∀ (r : Fin 2), ∀ a, (k0_off1686 k0_t138 (BitVec.ofNat 32 (16 * r.val))) a + S16.size a ≤ S8192.size a
  k0_off1687_inb : ∀ k0_t138 : Fin k0_t138_loop.trips, ∀ (r : Fin 2), ∀ a, (k0_off1687 k0_t138 (BitVec.ofNat 32 (16 + 16 * r.val))) a + S16.size a ≤ S8192.size a
  k0_off1688_inb : ∀ k0_t138 : Fin k0_t138_loop.trips, ∀ (r : Fin 2), ∀ a, (k0_off1688 k0_t138 (BitVec.ofNat 32 (32 + 16 * r.val))) a + S16.size a ≤ S8192.size a
  k0_off1689_inb : ∀ k0_t138 : Fin k0_t138_loop.trips, ∀ (r : Fin 2), ∀ a, (k0_off1689 k0_t138 (BitVec.ofNat 32 (48 + 16 * r.val))) a + S16.size a ≤ S8192.size a
  k0_off1690_inb : ∀ k0_t138 : Fin k0_t138_loop.trips, ∀ (r : Fin 2), ∀ a, (k0_off1690 k0_t138 (BitVec.ofNat 32 (64 + 16 * r.val))) a + S16.size a ≤ S8192.size a
  k0_off1691_inb : ∀ k0_t138 : Fin k0_t138_loop.trips, ∀ (r : Fin 2), ∀ a, (k0_off1691 k0_t138 (BitVec.ofNat 32 (80 + 16 * r.val))) a + S16.size a ≤ S8192.size a
  k0_off1692_inb : ∀ k0_t138 : Fin k0_t138_loop.trips, ∀ (r : Fin 2), ∀ a, (k0_off1692 k0_t138 (BitVec.ofNat 32 (96 + 16 * r.val))) a + S16.size a ≤ S8192.size a
  k0_off1693_inb : ∀ k0_t138 : Fin k0_t138_loop.trips, ∀ (r : Fin 2), ∀ a, (k0_off1693 k0_t138 (BitVec.ofNat 32 (112 + 16 * r.val))) a + S16.size a ≤ S8192.size a
  k0_off1694_inb : ∀ k0_t138 : Fin k0_t138_loop.trips, ∀ (r : Fin 2), ∀ a, (k0_off1694 k0_t138 (BitVec.ofNat 32 (128 + 16 * r.val))) a + S16.size a ≤ S8192.size a
  k0_off1695_inb : ∀ k0_t138 : Fin k0_t138_loop.trips, ∀ (r : Fin 2), ∀ a, (k0_off1695 k0_t138 (BitVec.ofNat 32 (144 + 16 * r.val))) a + S16.size a ≤ S8192.size a
  k0_off1696_inb : ∀ k0_t138 : Fin k0_t138_loop.trips, ∀ (r : Fin 2), ∀ a, (k0_off1696 k0_t138 (BitVec.ofNat 32 (160 + 16 * r.val))) a + S16.size a ≤ S8192.size a
  k0_off1697_inb : ∀ k0_t138 : Fin k0_t138_loop.trips, ∀ (r : Fin 2), ∀ a, (k0_off1697 k0_t138 (BitVec.ofNat 32 (176 + 16 * r.val))) a + S16.size a ≤ S8192.size a
  k0_off1698_inb : ∀ k0_t138 : Fin k0_t138_loop.trips, ∀ (r : Fin 2), ∀ a, (k0_off1698 k0_t138 (BitVec.ofNat 32 (192 + 16 * r.val))) a + S16.size a ≤ S8192.size a
  k0_off1699_inb : ∀ k0_t138 : Fin k0_t138_loop.trips, ∀ (r : Fin 2), ∀ a, (k0_off1699 k0_t138 (BitVec.ofNat 32 (208 + 16 * r.val))) a + S16.size a ≤ S8192.size a
  k0_off1700_inb : ∀ k0_t138 : Fin k0_t138_loop.trips, ∀ (r : Fin 2), ∀ a, (k0_off1700 k0_t138 (BitVec.ofNat 32 (224 + 16 * r.val))) a + S16.size a ≤ S8192.size a
  k0_off1701_inb : ∀ k0_t138 : Fin k0_t138_loop.trips, ∀ a, (k0_off1701 k0_t138) a + S16.size a ≤ S8192.size a
  k0_off1702_inb : ∀ (i : grid0.Coords) (k0_t136 : Fin (k0_t136_loop i).trips), ∀ a, (k0_off1702 i k0_t136) a + S1x8192.size a ≤ S936x16384.size a
  k0_t139_ok : ∀ i : grid0.Coords, (k0_t139_loop i).OK
  k0_off1703_inb : ∀ (i : grid0.Coords) (k0_t139 : Fin (k0_t139_loop i).trips), ∀ a, (k0_off1703 i k0_t139) a + S1x100000.size a ≤ S36x100000.size a
  k0_t140_ok : k0_t140_loop.OK
  k0_off1704_inb : ∀ k0_t140 : Fin k0_t140_loop.trips, ∀ a, (k0_off1704 k0_t140) a + S16.size a ≤ S8192.size a
  k0_off1705_inb : ∀ k0_t140 : Fin k0_t140_loop.trips, ∀ (r : Fin 2), ∀ a, (k0_off1705 k0_t140 (BitVec.ofNat 32 (16 * r.val))) a + S16.size a ≤ S8192.size a
  k0_off1706_inb : ∀ k0_t140 : Fin k0_t140_loop.trips, ∀ (r : Fin 2), ∀ a, (k0_off1706 k0_t140 (BitVec.ofNat 32 (16 + 16 * r.val))) a + S16.size a ≤ S8192.size a
  k0_off1707_inb : ∀ k0_t140 : Fin k0_t140_loop.trips, ∀ (r : Fin 2), ∀ a, (k0_off1707 k0_t140 (BitVec.ofNat 32 (32 + 16 * r.val))) a + S16.size a ≤ S8192.size a
  k0_off1708_inb : ∀ k0_t140 : Fin k0_t140_loop.trips, ∀ (r : Fin 2), ∀ a, (k0_off1708 k0_t140 (BitVec.ofNat 32 (48 + 16 * r.val))) a + S16.size a ≤ S8192.size a
  k0_off1709_inb : ∀ k0_t140 : Fin k0_t140_loop.trips, ∀ (r : Fin 2), ∀ a, (k0_off1709 k0_t140 (BitVec.ofNat 32 (64 + 16 * r.val))) a + S16.size a ≤ S8192.size a
  k0_off1710_inb : ∀ k0_t140 : Fin k0_t140_loop.trips, ∀ (r : Fin 2), ∀ a, (k0_off1710 k0_t140 (BitVec.ofNat 32 (80 + 16 * r.val))) a + S16.size a ≤ S8192.size a
  k0_off1711_inb : ∀ k0_t140 : Fin k0_t140_loop.trips, ∀ (r : Fin 2), ∀ a, (k0_off1711 k0_t140 (BitVec.ofNat 32 (96 + 16 * r.val))) a + S16.size a ≤ S8192.size a
  k0_off1712_inb : ∀ k0_t140 : Fin k0_t140_loop.trips, ∀ (r : Fin 2), ∀ a, (k0_off1712 k0_t140 (BitVec.ofNat 32 (112 + 16 * r.val))) a + S16.size a ≤ S8192.size a
  k0_off1713_inb : ∀ k0_t140 : Fin k0_t140_loop.trips, ∀ (r : Fin 2), ∀ a, (k0_off1713 k0_t140 (BitVec.ofNat 32 (128 + 16 * r.val))) a + S16.size a ≤ S8192.size a
  k0_off1714_inb : ∀ k0_t140 : Fin k0_t140_loop.trips, ∀ (r : Fin 2), ∀ a, (k0_off1714 k0_t140 (BitVec.ofNat 32 (144 + 16 * r.val))) a + S16.size a ≤ S8192.size a
  k0_off1715_inb : ∀ k0_t140 : Fin k0_t140_loop.trips, ∀ (r : Fin 2), ∀ a, (k0_off1715 k0_t140 (BitVec.ofNat 32 (160 + 16 * r.val))) a + S16.size a ≤ S8192.size a
  k0_off1716_inb : ∀ k0_t140 : Fin k0_t140_loop.trips, ∀ (r : Fin 2), ∀ a, (k0_off1716 k0_t140 (BitVec.ofNat 32 (176 + 16 * r.val))) a + S16.size a ≤ S8192.size a
  k0_off1717_inb : ∀ k0_t140 : Fin k0_t140_loop.trips, ∀ (r : Fin 2), ∀ a, (k0_off1717 k0_t140 (BitVec.ofNat 32 (192 + 16 * r.val))) a + S16.size a ≤ S8192.size a
  k0_off1718_inb : ∀ k0_t140 : Fin k0_t140_loop.trips, ∀ (r : Fin 2), ∀ a, (k0_off1718 k0_t140 (BitVec.ofNat 32 (208 + 16 * r.val))) a + S16.size a ≤ S8192.size a
  k0_off1719_inb : ∀ k0_t140 : Fin k0_t140_loop.trips, ∀ (r : Fin 2), ∀ a, (k0_off1719 k0_t140 (BitVec.ofNat 32 (224 + 16 * r.val))) a + S16.size a ≤ S8192.size a
  k0_off1720_inb : ∀ k0_t140 : Fin k0_t140_loop.trips, ∀ a, (k0_off1720 k0_t140) a + S16.size a ≤ S8192.size a
  k0_off1721_inb : ∀ (i : grid0.Coords) (k0_t139 : Fin (k0_t139_loop i).trips), ∀ a, (k0_off1721 i k0_t139) a + S1x8192.size a ≤ S936x16384.size a
  k0_t141_ok : k0_t141_loop.OK
  k0_off1722_inb : ∀ k0_t141 : Fin k0_t141_loop.trips, ∀ a, (k0_off1722 k0_t141) a + S16.size a ≤ S8192.size a
  k0_off1723_inb : ∀ k0_t141 : Fin k0_t141_loop.trips, ∀ (r : Fin 2), ∀ a, (k0_off1723 k0_t141 (BitVec.ofNat 32 (16 * r.val))) a + S16.size a ≤ S8192.size a
  k0_off1724_inb : ∀ k0_t141 : Fin k0_t141_loop.trips, ∀ (r : Fin 2), ∀ a, (k0_off1724 k0_t141 (BitVec.ofNat 32 (16 + 16 * r.val))) a + S16.size a ≤ S8192.size a
  k0_off1725_inb : ∀ k0_t141 : Fin k0_t141_loop.trips, ∀ (r : Fin 2), ∀ a, (k0_off1725 k0_t141 (BitVec.ofNat 32 (32 + 16 * r.val))) a + S16.size a ≤ S8192.size a
  k0_off1726_inb : ∀ k0_t141 : Fin k0_t141_loop.trips, ∀ (r : Fin 2), ∀ a, (k0_off1726 k0_t141 (BitVec.ofNat 32 (48 + 16 * r.val))) a + S16.size a ≤ S8192.size a
  k0_off1727_inb : ∀ k0_t141 : Fin k0_t141_loop.trips, ∀ (r : Fin 2), ∀ a, (k0_off1727 k0_t141 (BitVec.ofNat 32 (64 + 16 * r.val))) a + S16.size a ≤ S8192.size a
  k0_off1728_inb : ∀ k0_t141 : Fin k0_t141_loop.trips, ∀ (r : Fin 2), ∀ a, (k0_off1728 k0_t141 (BitVec.ofNat 32 (80 + 16 * r.val))) a + S16.size a ≤ S8192.size a
  k0_off1729_inb : ∀ k0_t141 : Fin k0_t141_loop.trips, ∀ (r : Fin 2), ∀ a, (k0_off1729 k0_t141 (BitVec.ofNat 32 (96 + 16 * r.val))) a + S16.size a ≤ S8192.size a
  k0_off1730_inb : ∀ k0_t141 : Fin k0_t141_loop.trips, ∀ (r : Fin 2), ∀ a, (k0_off1730 k0_t141 (BitVec.ofNat 32 (112 + 16 * r.val))) a + S16.size a ≤ S8192.size a
  k0_off1731_inb : ∀ k0_t141 : Fin k0_t141_loop.trips, ∀ (r : Fin 2), ∀ a, (k0_off1731 k0_t141 (BitVec.ofNat 32 (128 + 16 * r.val))) a + S16.size a ≤ S8192.size a
  k0_off1732_inb : ∀ k0_t141 : Fin k0_t141_loop.trips, ∀ (r : Fin 2), ∀ a, (k0_off1732 k0_t141 (BitVec.ofNat 32 (144 + 16 * r.val))) a + S16.size a ≤ S8192.size a
  k0_off1733_inb : ∀ k0_t141 : Fin k0_t141_loop.trips, ∀ (r : Fin 2), ∀ a, (k0_off1733 k0_t141 (BitVec.ofNat 32 (160 + 16 * r.val))) a + S16.size a ≤ S8192.size a
  k0_off1734_inb : ∀ k0_t141 : Fin k0_t141_loop.trips, ∀ (r : Fin 2), ∀ a, (k0_off1734 k0_t141 (BitVec.ofNat 32 (176 + 16 * r.val))) a + S16.size a ≤ S8192.size a
  k0_off1735_inb : ∀ k0_t141 : Fin k0_t141_loop.trips, ∀ (r : Fin 2), ∀ a, (k0_off1735 k0_t141 (BitVec.ofNat 32 (192 + 16 * r.val))) a + S16.size a ≤ S8192.size a
  k0_off1736_inb : ∀ k0_t141 : Fin k0_t141_loop.trips, ∀ (r : Fin 2), ∀ a, (k0_off1736 k0_t141 (BitVec.ofNat 32 (208 + 16 * r.val))) a + S16.size a ≤ S8192.size a
  k0_off1737_inb : ∀ k0_t141 : Fin k0_t141_loop.trips, ∀ (r : Fin 2), ∀ a, (k0_off1737 k0_t141 (BitVec.ofNat 32 (224 + 16 * r.val))) a + S16.size a ≤ S8192.size a
  k0_off1738_inb : ∀ k0_t141 : Fin k0_t141_loop.trips, ∀ a, (k0_off1738 k0_t141) a + S16.size a ≤ S8192.size a
  k0_off1739_inb : ∀ (i : grid0.Coords) (k0_t139 : Fin (k0_t139_loop i).trips), ∀ a, (k0_off1739 i k0_t139) a + S1x8192.size a ≤ S936x16384.size a
  k0_t142_ok : ∀ i : grid0.Coords, (k0_t142_loop i).OK
  k0_off1740_inb : ∀ (i : grid0.Coords) (k0_t142 : Fin (k0_t142_loop i).trips), ∀ a, (k0_off1740 i k0_t142) a + S1x100000.size a ≤ S36x100000.size a
  k0_t143_ok : k0_t143_loop.OK
  k0_off1741_inb : ∀ k0_t143 : Fin k0_t143_loop.trips, ∀ a, (k0_off1741 k0_t143) a + S16.size a ≤ S8192.size a
  k0_off1742_inb : ∀ k0_t143 : Fin k0_t143_loop.trips, ∀ (r : Fin 2), ∀ a, (k0_off1742 k0_t143 (BitVec.ofNat 32 (16 * r.val))) a + S16.size a ≤ S8192.size a
  k0_off1743_inb : ∀ k0_t143 : Fin k0_t143_loop.trips, ∀ (r : Fin 2), ∀ a, (k0_off1743 k0_t143 (BitVec.ofNat 32 (16 + 16 * r.val))) a + S16.size a ≤ S8192.size a
  k0_off1744_inb : ∀ k0_t143 : Fin k0_t143_loop.trips, ∀ (r : Fin 2), ∀ a, (k0_off1744 k0_t143 (BitVec.ofNat 32 (32 + 16 * r.val))) a + S16.size a ≤ S8192.size a
  k0_off1745_inb : ∀ k0_t143 : Fin k0_t143_loop.trips, ∀ (r : Fin 2), ∀ a, (k0_off1745 k0_t143 (BitVec.ofNat 32 (48 + 16 * r.val))) a + S16.size a ≤ S8192.size a
  k0_off1746_inb : ∀ k0_t143 : Fin k0_t143_loop.trips, ∀ (r : Fin 2), ∀ a, (k0_off1746 k0_t143 (BitVec.ofNat 32 (64 + 16 * r.val))) a + S16.size a ≤ S8192.size a
  k0_off1747_inb : ∀ k0_t143 : Fin k0_t143_loop.trips, ∀ (r : Fin 2), ∀ a, (k0_off1747 k0_t143 (BitVec.ofNat 32 (80 + 16 * r.val))) a + S16.size a ≤ S8192.size a
  k0_off1748_inb : ∀ k0_t143 : Fin k0_t143_loop.trips, ∀ (r : Fin 2), ∀ a, (k0_off1748 k0_t143 (BitVec.ofNat 32 (96 + 16 * r.val))) a + S16.size a ≤ S8192.size a
  k0_off1749_inb : ∀ k0_t143 : Fin k0_t143_loop.trips, ∀ (r : Fin 2), ∀ a, (k0_off1749 k0_t143 (BitVec.ofNat 32 (112 + 16 * r.val))) a + S16.size a ≤ S8192.size a
  k0_off1750_inb : ∀ k0_t143 : Fin k0_t143_loop.trips, ∀ (r : Fin 2), ∀ a, (k0_off1750 k0_t143 (BitVec.ofNat 32 (128 + 16 * r.val))) a + S16.size a ≤ S8192.size a
  k0_off1751_inb : ∀ k0_t143 : Fin k0_t143_loop.trips, ∀ (r : Fin 2), ∀ a, (k0_off1751 k0_t143 (BitVec.ofNat 32 (144 + 16 * r.val))) a + S16.size a ≤ S8192.size a
  k0_off1752_inb : ∀ k0_t143 : Fin k0_t143_loop.trips, ∀ (r : Fin 2), ∀ a, (k0_off1752 k0_t143 (BitVec.ofNat 32 (160 + 16 * r.val))) a + S16.size a ≤ S8192.size a
  k0_off1753_inb : ∀ k0_t143 : Fin k0_t143_loop.trips, ∀ (r : Fin 2), ∀ a, (k0_off1753 k0_t143 (BitVec.ofNat 32 (176 + 16 * r.val))) a + S16.size a ≤ S8192.size a
  k0_off1754_inb : ∀ k0_t143 : Fin k0_t143_loop.trips, ∀ (r : Fin 2), ∀ a, (k0_off1754 k0_t143 (BitVec.ofNat 32 (192 + 16 * r.val))) a + S16.size a ≤ S8192.size a
  k0_off1755_inb : ∀ k0_t143 : Fin k0_t143_loop.trips, ∀ (r : Fin 2), ∀ a, (k0_off1755 k0_t143 (BitVec.ofNat 32 (208 + 16 * r.val))) a + S16.size a ≤ S8192.size a
  k0_off1756_inb : ∀ k0_t143 : Fin k0_t143_loop.trips, ∀ (r : Fin 2), ∀ a, (k0_off1756 k0_t143 (BitVec.ofNat 32 (224 + 16 * r.val))) a + S16.size a ≤ S8192.size a
  k0_off1757_inb : ∀ k0_t143 : Fin k0_t143_loop.trips, ∀ a, (k0_off1757 k0_t143) a + S16.size a ≤ S8192.size a
  k0_off1758_inb : ∀ (i : grid0.Coords) (k0_t142 : Fin (k0_t142_loop i).trips), ∀ a, (k0_off1758 i k0_t142) a + S1x8192.size a ≤ S936x16384.size a
  k0_t144_ok : k0_t144_loop.OK
  k0_off1759_inb : ∀ k0_t144 : Fin k0_t144_loop.trips, ∀ a, (k0_off1759 k0_t144) a + S16.size a ≤ S8192.size a
  k0_off1760_inb : ∀ k0_t144 : Fin k0_t144_loop.trips, ∀ (r : Fin 2), ∀ a, (k0_off1760 k0_t144 (BitVec.ofNat 32 (16 * r.val))) a + S16.size a ≤ S8192.size a
  k0_off1761_inb : ∀ k0_t144 : Fin k0_t144_loop.trips, ∀ (r : Fin 2), ∀ a, (k0_off1761 k0_t144 (BitVec.ofNat 32 (16 + 16 * r.val))) a + S16.size a ≤ S8192.size a
  k0_off1762_inb : ∀ k0_t144 : Fin k0_t144_loop.trips, ∀ (r : Fin 2), ∀ a, (k0_off1762 k0_t144 (BitVec.ofNat 32 (32 + 16 * r.val))) a + S16.size a ≤ S8192.size a
  k0_off1763_inb : ∀ k0_t144 : Fin k0_t144_loop.trips, ∀ (r : Fin 2), ∀ a, (k0_off1763 k0_t144 (BitVec.ofNat 32 (48 + 16 * r.val))) a + S16.size a ≤ S8192.size a
  k0_off1764_inb : ∀ k0_t144 : Fin k0_t144_loop.trips, ∀ (r : Fin 2), ∀ a, (k0_off1764 k0_t144 (BitVec.ofNat 32 (64 + 16 * r.val))) a + S16.size a ≤ S8192.size a
  k0_off1765_inb : ∀ k0_t144 : Fin k0_t144_loop.trips, ∀ (r : Fin 2), ∀ a, (k0_off1765 k0_t144 (BitVec.ofNat 32 (80 + 16 * r.val))) a + S16.size a ≤ S8192.size a
  k0_off1766_inb : ∀ k0_t144 : Fin k0_t144_loop.trips, ∀ (r : Fin 2), ∀ a, (k0_off1766 k0_t144 (BitVec.ofNat 32 (96 + 16 * r.val))) a + S16.size a ≤ S8192.size a
  k0_off1767_inb : ∀ k0_t144 : Fin k0_t144_loop.trips, ∀ (r : Fin 2), ∀ a, (k0_off1767 k0_t144 (BitVec.ofNat 32 (112 + 16 * r.val))) a + S16.size a ≤ S8192.size a
  k0_off1768_inb : ∀ k0_t144 : Fin k0_t144_loop.trips, ∀ (r : Fin 2), ∀ a, (k0_off1768 k0_t144 (BitVec.ofNat 32 (128 + 16 * r.val))) a + S16.size a ≤ S8192.size a
  k0_off1769_inb : ∀ k0_t144 : Fin k0_t144_loop.trips, ∀ (r : Fin 2), ∀ a, (k0_off1769 k0_t144 (BitVec.ofNat 32 (144 + 16 * r.val))) a + S16.size a ≤ S8192.size a
  k0_off1770_inb : ∀ k0_t144 : Fin k0_t144_loop.trips, ∀ (r : Fin 2), ∀ a, (k0_off1770 k0_t144 (BitVec.ofNat 32 (160 + 16 * r.val))) a + S16.size a ≤ S8192.size a
  k0_off1771_inb : ∀ k0_t144 : Fin k0_t144_loop.trips, ∀ (r : Fin 2), ∀ a, (k0_off1771 k0_t144 (BitVec.ofNat 32 (176 + 16 * r.val))) a + S16.size a ≤ S8192.size a
  k0_off1772_inb : ∀ k0_t144 : Fin k0_t144_loop.trips, ∀ (r : Fin 2), ∀ a, (k0_off1772 k0_t144 (BitVec.ofNat 32 (192 + 16 * r.val))) a + S16.size a ≤ S8192.size a
  k0_off1773_inb : ∀ k0_t144 : Fin k0_t144_loop.trips, ∀ (r : Fin 2), ∀ a, (k0_off1773 k0_t144 (BitVec.ofNat 32 (208 + 16 * r.val))) a + S16.size a ≤ S8192.size a
  k0_off1774_inb : ∀ k0_t144 : Fin k0_t144_loop.trips, ∀ (r : Fin 2), ∀ a, (k0_off1774 k0_t144 (BitVec.ofNat 32 (224 + 16 * r.val))) a + S16.size a ≤ S8192.size a
  k0_off1775_inb : ∀ k0_t144 : Fin k0_t144_loop.trips, ∀ a, (k0_off1775 k0_t144) a + S16.size a ≤ S8192.size a
  k0_off1776_inb : ∀ (i : grid0.Coords) (k0_t142 : Fin (k0_t142_loop i).trips), ∀ a, (k0_off1776 i k0_t142) a + S1x8192.size a ≤ S936x16384.size a
  k0_t145_ok : ∀ i : grid0.Coords, (k0_t145_loop i).OK
  k0_off1777_inb : ∀ (i : grid0.Coords) (k0_t145 : Fin (k0_t145_loop i).trips), ∀ a, (k0_off1777 i k0_t145) a + S1x100000.size a ≤ S36x100000.size a
  k0_t146_ok : k0_t146_loop.OK
  k0_off1778_inb : ∀ k0_t146 : Fin k0_t146_loop.trips, ∀ a, (k0_off1778 k0_t146) a + S16.size a ≤ S8192.size a
  k0_off1779_inb : ∀ k0_t146 : Fin k0_t146_loop.trips, ∀ (r : Fin 2), ∀ a, (k0_off1779 k0_t146 (BitVec.ofNat 32 (16 * r.val))) a + S16.size a ≤ S8192.size a
  k0_off1780_inb : ∀ k0_t146 : Fin k0_t146_loop.trips, ∀ (r : Fin 2), ∀ a, (k0_off1780 k0_t146 (BitVec.ofNat 32 (16 + 16 * r.val))) a + S16.size a ≤ S8192.size a
  k0_off1781_inb : ∀ k0_t146 : Fin k0_t146_loop.trips, ∀ (r : Fin 2), ∀ a, (k0_off1781 k0_t146 (BitVec.ofNat 32 (32 + 16 * r.val))) a + S16.size a ≤ S8192.size a
  k0_off1782_inb : ∀ k0_t146 : Fin k0_t146_loop.trips, ∀ (r : Fin 2), ∀ a, (k0_off1782 k0_t146 (BitVec.ofNat 32 (48 + 16 * r.val))) a + S16.size a ≤ S8192.size a
  k0_off1783_inb : ∀ k0_t146 : Fin k0_t146_loop.trips, ∀ (r : Fin 2), ∀ a, (k0_off1783 k0_t146 (BitVec.ofNat 32 (64 + 16 * r.val))) a + S16.size a ≤ S8192.size a
  k0_off1784_inb : ∀ k0_t146 : Fin k0_t146_loop.trips, ∀ (r : Fin 2), ∀ a, (k0_off1784 k0_t146 (BitVec.ofNat 32 (80 + 16 * r.val))) a + S16.size a ≤ S8192.size a
  k0_off1785_inb : ∀ k0_t146 : Fin k0_t146_loop.trips, ∀ (r : Fin 2), ∀ a, (k0_off1785 k0_t146 (BitVec.ofNat 32 (96 + 16 * r.val))) a + S16.size a ≤ S8192.size a
  k0_off1786_inb : ∀ k0_t146 : Fin k0_t146_loop.trips, ∀ (r : Fin 2), ∀ a, (k0_off1786 k0_t146 (BitVec.ofNat 32 (112 + 16 * r.val))) a + S16.size a ≤ S8192.size a
  k0_off1787_inb : ∀ k0_t146 : Fin k0_t146_loop.trips, ∀ (r : Fin 2), ∀ a, (k0_off1787 k0_t146 (BitVec.ofNat 32 (128 + 16 * r.val))) a + S16.size a ≤ S8192.size a
  k0_off1788_inb : ∀ k0_t146 : Fin k0_t146_loop.trips, ∀ (r : Fin 2), ∀ a, (k0_off1788 k0_t146 (BitVec.ofNat 32 (144 + 16 * r.val))) a + S16.size a ≤ S8192.size a
  k0_off1789_inb : ∀ k0_t146 : Fin k0_t146_loop.trips, ∀ (r : Fin 2), ∀ a, (k0_off1789 k0_t146 (BitVec.ofNat 32 (160 + 16 * r.val))) a + S16.size a ≤ S8192.size a
  k0_off1790_inb : ∀ k0_t146 : Fin k0_t146_loop.trips, ∀ (r : Fin 2), ∀ a, (k0_off1790 k0_t146 (BitVec.ofNat 32 (176 + 16 * r.val))) a + S16.size a ≤ S8192.size a
  k0_off1791_inb : ∀ k0_t146 : Fin k0_t146_loop.trips, ∀ (r : Fin 2), ∀ a, (k0_off1791 k0_t146 (BitVec.ofNat 32 (192 + 16 * r.val))) a + S16.size a ≤ S8192.size a
  k0_off1792_inb : ∀ k0_t146 : Fin k0_t146_loop.trips, ∀ (r : Fin 2), ∀ a, (k0_off1792 k0_t146 (BitVec.ofNat 32 (208 + 16 * r.val))) a + S16.size a ≤ S8192.size a
  k0_off1793_inb : ∀ k0_t146 : Fin k0_t146_loop.trips, ∀ (r : Fin 2), ∀ a, (k0_off1793 k0_t146 (BitVec.ofNat 32 (224 + 16 * r.val))) a + S16.size a ≤ S8192.size a
  k0_off1794_inb : ∀ k0_t146 : Fin k0_t146_loop.trips, ∀ a, (k0_off1794 k0_t146) a + S16.size a ≤ S8192.size a
  k0_off1795_inb : ∀ (i : grid0.Coords) (k0_t145 : Fin (k0_t145_loop i).trips), ∀ a, (k0_off1795 i k0_t145) a + S1x8192.size a ≤ S936x16384.size a
  k0_t147_ok : k0_t147_loop.OK
  k0_off1796_inb : ∀ k0_t147 : Fin k0_t147_loop.trips, ∀ a, (k0_off1796 k0_t147) a + S16.size a ≤ S8192.size a
  k0_off1797_inb : ∀ k0_t147 : Fin k0_t147_loop.trips, ∀ (r : Fin 2), ∀ a, (k0_off1797 k0_t147 (BitVec.ofNat 32 (16 * r.val))) a + S16.size a ≤ S8192.size a
  k0_off1798_inb : ∀ k0_t147 : Fin k0_t147_loop.trips, ∀ (r : Fin 2), ∀ a, (k0_off1798 k0_t147 (BitVec.ofNat 32 (16 + 16 * r.val))) a + S16.size a ≤ S8192.size a
  k0_off1799_inb : ∀ k0_t147 : Fin k0_t147_loop.trips, ∀ (r : Fin 2), ∀ a, (k0_off1799 k0_t147 (BitVec.ofNat 32 (32 + 16 * r.val))) a + S16.size a ≤ S8192.size a
  k0_off1800_inb : ∀ k0_t147 : Fin k0_t147_loop.trips, ∀ (r : Fin 2), ∀ a, (k0_off1800 k0_t147 (BitVec.ofNat 32 (48 + 16 * r.val))) a + S16.size a ≤ S8192.size a
  k0_off1801_inb : ∀ k0_t147 : Fin k0_t147_loop.trips, ∀ (r : Fin 2), ∀ a, (k0_off1801 k0_t147 (BitVec.ofNat 32 (64 + 16 * r.val))) a + S16.size a ≤ S8192.size a
  k0_off1802_inb : ∀ k0_t147 : Fin k0_t147_loop.trips, ∀ (r : Fin 2), ∀ a, (k0_off1802 k0_t147 (BitVec.ofNat 32 (80 + 16 * r.val))) a + S16.size a ≤ S8192.size a
  k0_off1803_inb : ∀ k0_t147 : Fin k0_t147_loop.trips, ∀ (r : Fin 2), ∀ a, (k0_off1803 k0_t147 (BitVec.ofNat 32 (96 + 16 * r.val))) a + S16.size a ≤ S8192.size a
  k0_off1804_inb : ∀ k0_t147 : Fin k0_t147_loop.trips, ∀ (r : Fin 2), ∀ a, (k0_off1804 k0_t147 (BitVec.ofNat 32 (112 + 16 * r.val))) a + S16.size a ≤ S8192.size a
  k0_off1805_inb : ∀ k0_t147 : Fin k0_t147_loop.trips, ∀ (r : Fin 2), ∀ a, (k0_off1805 k0_t147 (BitVec.ofNat 32 (128 + 16 * r.val))) a + S16.size a ≤ S8192.size a
  k0_off1806_inb : ∀ k0_t147 : Fin k0_t147_loop.trips, ∀ (r : Fin 2), ∀ a, (k0_off1806 k0_t147 (BitVec.ofNat 32 (144 + 16 * r.val))) a + S16.size a ≤ S8192.size a
  k0_off1807_inb : ∀ k0_t147 : Fin k0_t147_loop.trips, ∀ (r : Fin 2), ∀ a, (k0_off1807 k0_t147 (BitVec.ofNat 32 (160 + 16 * r.val))) a + S16.size a ≤ S8192.size a
  k0_off1808_inb : ∀ k0_t147 : Fin k0_t147_loop.trips, ∀ (r : Fin 2), ∀ a, (k0_off1808 k0_t147 (BitVec.ofNat 32 (176 + 16 * r.val))) a + S16.size a ≤ S8192.size a
  k0_off1809_inb : ∀ k0_t147 : Fin k0_t147_loop.trips, ∀ (r : Fin 2), ∀ a, (k0_off1809 k0_t147 (BitVec.ofNat 32 (192 + 16 * r.val))) a + S16.size a ≤ S8192.size a
  k0_off1810_inb : ∀ k0_t147 : Fin k0_t147_loop.trips, ∀ (r : Fin 2), ∀ a, (k0_off1810 k0_t147 (BitVec.ofNat 32 (208 + 16 * r.val))) a + S16.size a ≤ S8192.size a
  k0_off1811_inb : ∀ k0_t147 : Fin k0_t147_loop.trips, ∀ (r : Fin 2), ∀ a, (k0_off1811 k0_t147 (BitVec.ofNat 32 (224 + 16 * r.val))) a + S16.size a ≤ S8192.size a
  k0_off1812_inb : ∀ k0_t147 : Fin k0_t147_loop.trips, ∀ a, (k0_off1812 k0_t147) a + S16.size a ≤ S8192.size a
  k0_off1813_inb : ∀ (i : grid0.Coords) (k0_t145 : Fin (k0_t145_loop i).trips), ∀ a, (k0_off1813 i k0_t145) a + S1x8192.size a ≤ S936x16384.size a
  k0_t148_ok : ∀ i : grid0.Coords, (k0_t148_loop i).OK
  k0_off1814_inb : ∀ (i : grid0.Coords) (k0_t148 : Fin (k0_t148_loop i).trips), ∀ a, (k0_off1814 i k0_t148) a + S1x100000.size a ≤ S36x100000.size a
  k0_t149_ok : k0_t149_loop.OK
  k0_off1815_inb : ∀ k0_t149 : Fin k0_t149_loop.trips, ∀ a, (k0_off1815 k0_t149) a + S16.size a ≤ S8192.size a
  k0_off1816_inb : ∀ k0_t149 : Fin k0_t149_loop.trips, ∀ (r : Fin 2), ∀ a, (k0_off1816 k0_t149 (BitVec.ofNat 32 (16 * r.val))) a + S16.size a ≤ S8192.size a
  k0_off1817_inb : ∀ k0_t149 : Fin k0_t149_loop.trips, ∀ (r : Fin 2), ∀ a, (k0_off1817 k0_t149 (BitVec.ofNat 32 (16 + 16 * r.val))) a + S16.size a ≤ S8192.size a
  k0_off1818_inb : ∀ k0_t149 : Fin k0_t149_loop.trips, ∀ (r : Fin 2), ∀ a, (k0_off1818 k0_t149 (BitVec.ofNat 32 (32 + 16 * r.val))) a + S16.size a ≤ S8192.size a
  k0_off1819_inb : ∀ k0_t149 : Fin k0_t149_loop.trips, ∀ (r : Fin 2), ∀ a, (k0_off1819 k0_t149 (BitVec.ofNat 32 (48 + 16 * r.val))) a + S16.size a ≤ S8192.size a
  k0_off1820_inb : ∀ k0_t149 : Fin k0_t149_loop.trips, ∀ (r : Fin 2), ∀ a, (k0_off1820 k0_t149 (BitVec.ofNat 32 (64 + 16 * r.val))) a + S16.size a ≤ S8192.size a
  k0_off1821_inb : ∀ k0_t149 : Fin k0_t149_loop.trips, ∀ (r : Fin 2), ∀ a, (k0_off1821 k0_t149 (BitVec.ofNat 32 (80 + 16 * r.val))) a + S16.size a ≤ S8192.size a
  k0_off1822_inb : ∀ k0_t149 : Fin k0_t149_loop.trips, ∀ (r : Fin 2), ∀ a, (k0_off1822 k0_t149 (BitVec.ofNat 32 (96 + 16 * r.val))) a + S16.size a ≤ S8192.size a
  k0_off1823_inb : ∀ k0_t149 : Fin k0_t149_loop.trips, ∀ (r : Fin 2), ∀ a, (k0_off1823 k0_t149 (BitVec.ofNat 32 (112 + 16 * r.val))) a + S16.size a ≤ S8192.size a
  k0_off1824_inb : ∀ k0_t149 : Fin k0_t149_loop.trips, ∀ (r : Fin 2), ∀ a, (k0_off1824 k0_t149 (BitVec.ofNat 32 (128 + 16 * r.val))) a + S16.size a ≤ S8192.size a
  k0_off1825_inb : ∀ k0_t149 : Fin k0_t149_loop.trips, ∀ (r : Fin 2), ∀ a, (k0_off1825 k0_t149 (BitVec.ofNat 32 (144 + 16 * r.val))) a + S16.size a ≤ S8192.size a
  k0_off1826_inb : ∀ k0_t149 : Fin k0_t149_loop.trips, ∀ (r : Fin 2), ∀ a, (k0_off1826 k0_t149 (BitVec.ofNat 32 (160 + 16 * r.val))) a + S16.size a ≤ S8192.size a
  k0_off1827_inb : ∀ k0_t149 : Fin k0_t149_loop.trips, ∀ (r : Fin 2), ∀ a, (k0_off1827 k0_t149 (BitVec.ofNat 32 (176 + 16 * r.val))) a + S16.size a ≤ S8192.size a
  k0_off1828_inb : ∀ k0_t149 : Fin k0_t149_loop.trips, ∀ (r : Fin 2), ∀ a, (k0_off1828 k0_t149 (BitVec.ofNat 32 (192 + 16 * r.val))) a + S16.size a ≤ S8192.size a
  k0_off1829_inb : ∀ k0_t149 : Fin k0_t149_loop.trips, ∀ (r : Fin 2), ∀ a, (k0_off1829 k0_t149 (BitVec.ofNat 32 (208 + 16 * r.val))) a + S16.size a ≤ S8192.size a
  k0_off1830_inb : ∀ k0_t149 : Fin k0_t149_loop.trips, ∀ (r : Fin 2), ∀ a, (k0_off1830 k0_t149 (BitVec.ofNat 32 (224 + 16 * r.val))) a + S16.size a ≤ S8192.size a
  k0_off1831_inb : ∀ k0_t149 : Fin k0_t149_loop.trips, ∀ a, (k0_off1831 k0_t149) a + S16.size a ≤ S8192.size a
  k0_off1832_inb : ∀ (i : grid0.Coords) (k0_t148 : Fin (k0_t148_loop i).trips), ∀ a, (k0_off1832 i k0_t148) a + S1x8192.size a ≤ S936x16384.size a
  k0_t150_ok : k0_t150_loop.OK
  k0_off1833_inb : ∀ k0_t150 : Fin k0_t150_loop.trips, ∀ a, (k0_off1833 k0_t150) a + S16.size a ≤ S8192.size a
  k0_off1834_inb : ∀ k0_t150 : Fin k0_t150_loop.trips, ∀ (r : Fin 2), ∀ a, (k0_off1834 k0_t150 (BitVec.ofNat 32 (16 * r.val))) a + S16.size a ≤ S8192.size a
  k0_off1835_inb : ∀ k0_t150 : Fin k0_t150_loop.trips, ∀ (r : Fin 2), ∀ a, (k0_off1835 k0_t150 (BitVec.ofNat 32 (16 + 16 * r.val))) a + S16.size a ≤ S8192.size a
  k0_off1836_inb : ∀ k0_t150 : Fin k0_t150_loop.trips, ∀ (r : Fin 2), ∀ a, (k0_off1836 k0_t150 (BitVec.ofNat 32 (32 + 16 * r.val))) a + S16.size a ≤ S8192.size a
  k0_off1837_inb : ∀ k0_t150 : Fin k0_t150_loop.trips, ∀ (r : Fin 2), ∀ a, (k0_off1837 k0_t150 (BitVec.ofNat 32 (48 + 16 * r.val))) a + S16.size a ≤ S8192.size a
  k0_off1838_inb : ∀ k0_t150 : Fin k0_t150_loop.trips, ∀ (r : Fin 2), ∀ a, (k0_off1838 k0_t150 (BitVec.ofNat 32 (64 + 16 * r.val))) a + S16.size a ≤ S8192.size a
  k0_off1839_inb : ∀ k0_t150 : Fin k0_t150_loop.trips, ∀ (r : Fin 2), ∀ a, (k0_off1839 k0_t150 (BitVec.ofNat 32 (80 + 16 * r.val))) a + S16.size a ≤ S8192.size a
  k0_off1840_inb : ∀ k0_t150 : Fin k0_t150_loop.trips, ∀ (r : Fin 2), ∀ a, (k0_off1840 k0_t150 (BitVec.ofNat 32 (96 + 16 * r.val))) a + S16.size a ≤ S8192.size a
  k0_off1841_inb : ∀ k0_t150 : Fin k0_t150_loop.trips, ∀ (r : Fin 2), ∀ a, (k0_off1841 k0_t150 (BitVec.ofNat 32 (112 + 16 * r.val))) a + S16.size a ≤ S8192.size a
  k0_off1842_inb : ∀ k0_t150 : Fin k0_t150_loop.trips, ∀ (r : Fin 2), ∀ a, (k0_off1842 k0_t150 (BitVec.ofNat 32 (128 + 16 * r.val))) a + S16.size a ≤ S8192.size a
  k0_off1843_inb : ∀ k0_t150 : Fin k0_t150_loop.trips, ∀ (r : Fin 2), ∀ a, (k0_off1843 k0_t150 (BitVec.ofNat 32 (144 + 16 * r.val))) a + S16.size a ≤ S8192.size a
  k0_off1844_inb : ∀ k0_t150 : Fin k0_t150_loop.trips, ∀ (r : Fin 2), ∀ a, (k0_off1844 k0_t150 (BitVec.ofNat 32 (160 + 16 * r.val))) a + S16.size a ≤ S8192.size a
  k0_off1845_inb : ∀ k0_t150 : Fin k0_t150_loop.trips, ∀ (r : Fin 2), ∀ a, (k0_off1845 k0_t150 (BitVec.ofNat 32 (176 + 16 * r.val))) a + S16.size a ≤ S8192.size a
  k0_off1846_inb : ∀ k0_t150 : Fin k0_t150_loop.trips, ∀ (r : Fin 2), ∀ a, (k0_off1846 k0_t150 (BitVec.ofNat 32 (192 + 16 * r.val))) a + S16.size a ≤ S8192.size a
  k0_off1847_inb : ∀ k0_t150 : Fin k0_t150_loop.trips, ∀ (r : Fin 2), ∀ a, (k0_off1847 k0_t150 (BitVec.ofNat 32 (208 + 16 * r.val))) a + S16.size a ≤ S8192.size a
  k0_off1848_inb : ∀ k0_t150 : Fin k0_t150_loop.trips, ∀ (r : Fin 2), ∀ a, (k0_off1848 k0_t150 (BitVec.ofNat 32 (224 + 16 * r.val))) a + S16.size a ≤ S8192.size a

class K0.R3.Facts₀ : Prop where
  k0_off1849_inb : ∀ k0_t150 : Fin k0_t150_loop.trips, ∀ a, (k0_off1849 k0_t150) a + S16.size a ≤ S8192.size a
  k0_off1850_inb : ∀ (i : grid0.Coords) (k0_t148 : Fin (k0_t148_loop i).trips), ∀ a, (k0_off1850 i k0_t148) a + S1x8192.size a ≤ S936x16384.size a
  k0_t151_ok : ∀ i : grid0.Coords, (k0_t151_loop i).OK
  k0_off1851_inb : ∀ (i : grid0.Coords) (k0_t151 : Fin (k0_t151_loop i).trips), ∀ a, (k0_off1851 i k0_t151) a + S1x100000.size a ≤ S36x100000.size a
  k0_t152_ok : k0_t152_loop.OK
  k0_off1852_inb : ∀ k0_t152 : Fin k0_t152_loop.trips, ∀ a, (k0_off1852 k0_t152) a + S16.size a ≤ S8192.size a
  k0_off1853_inb : ∀ k0_t152 : Fin k0_t152_loop.trips, ∀ (r : Fin 2), ∀ a, (k0_off1853 k0_t152 (BitVec.ofNat 32 (16 * r.val))) a + S16.size a ≤ S8192.size a
  k0_off1854_inb : ∀ k0_t152 : Fin k0_t152_loop.trips, ∀ (r : Fin 2), ∀ a, (k0_off1854 k0_t152 (BitVec.ofNat 32 (16 + 16 * r.val))) a + S16.size a ≤ S8192.size a
  k0_off1855_inb : ∀ k0_t152 : Fin k0_t152_loop.trips, ∀ (r : Fin 2), ∀ a, (k0_off1855 k0_t152 (BitVec.ofNat 32 (32 + 16 * r.val))) a + S16.size a ≤ S8192.size a
  k0_off1856_inb : ∀ k0_t152 : Fin k0_t152_loop.trips, ∀ (r : Fin 2), ∀ a, (k0_off1856 k0_t152 (BitVec.ofNat 32 (48 + 16 * r.val))) a + S16.size a ≤ S8192.size a
  k0_off1857_inb : ∀ k0_t152 : Fin k0_t152_loop.trips, ∀ (r : Fin 2), ∀ a, (k0_off1857 k0_t152 (BitVec.ofNat 32 (64 + 16 * r.val))) a + S16.size a ≤ S8192.size a
  k0_off1858_inb : ∀ k0_t152 : Fin k0_t152_loop.trips, ∀ (r : Fin 2), ∀ a, (k0_off1858 k0_t152 (BitVec.ofNat 32 (80 + 16 * r.val))) a + S16.size a ≤ S8192.size a
  k0_off1859_inb : ∀ k0_t152 : Fin k0_t152_loop.trips, ∀ (r : Fin 2), ∀ a, (k0_off1859 k0_t152 (BitVec.ofNat 32 (96 + 16 * r.val))) a + S16.size a ≤ S8192.size a
  k0_off1860_inb : ∀ k0_t152 : Fin k0_t152_loop.trips, ∀ (r : Fin 2), ∀ a, (k0_off1860 k0_t152 (BitVec.ofNat 32 (112 + 16 * r.val))) a + S16.size a ≤ S8192.size a
  k0_off1861_inb : ∀ k0_t152 : Fin k0_t152_loop.trips, ∀ (r : Fin 2), ∀ a, (k0_off1861 k0_t152 (BitVec.ofNat 32 (128 + 16 * r.val))) a + S16.size a ≤ S8192.size a
  k0_off1862_inb : ∀ k0_t152 : Fin k0_t152_loop.trips, ∀ (r : Fin 2), ∀ a, (k0_off1862 k0_t152 (BitVec.ofNat 32 (144 + 16 * r.val))) a + S16.size a ≤ S8192.size a
  k0_off1863_inb : ∀ k0_t152 : Fin k0_t152_loop.trips, ∀ (r : Fin 2), ∀ a, (k0_off1863 k0_t152 (BitVec.ofNat 32 (160 + 16 * r.val))) a + S16.size a ≤ S8192.size a
  k0_off1864_inb : ∀ k0_t152 : Fin k0_t152_loop.trips, ∀ (r : Fin 2), ∀ a, (k0_off1864 k0_t152 (BitVec.ofNat 32 (176 + 16 * r.val))) a + S16.size a ≤ S8192.size a
  k0_off1865_inb : ∀ k0_t152 : Fin k0_t152_loop.trips, ∀ (r : Fin 2), ∀ a, (k0_off1865 k0_t152 (BitVec.ofNat 32 (192 + 16 * r.val))) a + S16.size a ≤ S8192.size a
  k0_off1866_inb : ∀ k0_t152 : Fin k0_t152_loop.trips, ∀ (r : Fin 2), ∀ a, (k0_off1866 k0_t152 (BitVec.ofNat 32 (208 + 16 * r.val))) a + S16.size a ≤ S8192.size a
  k0_off1867_inb : ∀ k0_t152 : Fin k0_t152_loop.trips, ∀ (r : Fin 2), ∀ a, (k0_off1867 k0_t152 (BitVec.ofNat 32 (224 + 16 * r.val))) a + S16.size a ≤ S8192.size a
  k0_off1868_inb : ∀ k0_t152 : Fin k0_t152_loop.trips, ∀ a, (k0_off1868 k0_t152) a + S16.size a ≤ S8192.size a
  k0_off1869_inb : ∀ (i : grid0.Coords) (k0_t151 : Fin (k0_t151_loop i).trips), ∀ a, (k0_off1869 i k0_t151) a + S1x8192.size a ≤ S936x16384.size a
  k0_t153_ok : k0_t153_loop.OK
  k0_off1870_inb : ∀ k0_t153 : Fin k0_t153_loop.trips, ∀ a, (k0_off1870 k0_t153) a + S16.size a ≤ S8192.size a
  k0_off1871_inb : ∀ k0_t153 : Fin k0_t153_loop.trips, ∀ (r : Fin 2), ∀ a, (k0_off1871 k0_t153 (BitVec.ofNat 32 (16 * r.val))) a + S16.size a ≤ S8192.size a
  k0_off1872_inb : ∀ k0_t153 : Fin k0_t153_loop.trips, ∀ (r : Fin 2), ∀ a, (k0_off1872 k0_t153 (BitVec.ofNat 32 (16 + 16 * r.val))) a + S16.size a ≤ S8192.size a
  k0_off1873_inb : ∀ k0_t153 : Fin k0_t153_loop.trips, ∀ (r : Fin 2), ∀ a, (k0_off1873 k0_t153 (BitVec.ofNat 32 (32 + 16 * r.val))) a + S16.size a ≤ S8192.size a
  k0_off1874_inb : ∀ k0_t153 : Fin k0_t153_loop.trips, ∀ (r : Fin 2), ∀ a, (k0_off1874 k0_t153 (BitVec.ofNat 32 (48 + 16 * r.val))) a + S16.size a ≤ S8192.size a
  k0_off1875_inb : ∀ k0_t153 : Fin k0_t153_loop.trips, ∀ (r : Fin 2), ∀ a, (k0_off1875 k0_t153 (BitVec.ofNat 32 (64 + 16 * r.val))) a + S16.size a ≤ S8192.size a
  k0_off1876_inb : ∀ k0_t153 : Fin k0_t153_loop.trips, ∀ (r : Fin 2), ∀ a, (k0_off1876 k0_t153 (BitVec.ofNat 32 (80 + 16 * r.val))) a + S16.size a ≤ S8192.size a
  k0_off1877_inb : ∀ k0_t153 : Fin k0_t153_loop.trips, ∀ (r : Fin 2), ∀ a, (k0_off1877 k0_t153 (BitVec.ofNat 32 (96 + 16 * r.val))) a + S16.size a ≤ S8192.size a
  k0_off1878_inb : ∀ k0_t153 : Fin k0_t153_loop.trips, ∀ (r : Fin 2), ∀ a, (k0_off1878 k0_t153 (BitVec.ofNat 32 (112 + 16 * r.val))) a + S16.size a ≤ S8192.size a
  k0_off1879_inb : ∀ k0_t153 : Fin k0_t153_loop.trips, ∀ (r : Fin 2), ∀ a, (k0_off1879 k0_t153 (BitVec.ofNat 32 (128 + 16 * r.val))) a + S16.size a ≤ S8192.size a
  k0_off1880_inb : ∀ k0_t153 : Fin k0_t153_loop.trips, ∀ (r : Fin 2), ∀ a, (k0_off1880 k0_t153 (BitVec.ofNat 32 (144 + 16 * r.val))) a + S16.size a ≤ S8192.size a
  k0_off1881_inb : ∀ k0_t153 : Fin k0_t153_loop.trips, ∀ (r : Fin 2), ∀ a, (k0_off1881 k0_t153 (BitVec.ofNat 32 (160 + 16 * r.val))) a + S16.size a ≤ S8192.size a
  k0_off1882_inb : ∀ k0_t153 : Fin k0_t153_loop.trips, ∀ (r : Fin 2), ∀ a, (k0_off1882 k0_t153 (BitVec.ofNat 32 (176 + 16 * r.val))) a + S16.size a ≤ S8192.size a
  k0_off1883_inb : ∀ k0_t153 : Fin k0_t153_loop.trips, ∀ (r : Fin 2), ∀ a, (k0_off1883 k0_t153 (BitVec.ofNat 32 (192 + 16 * r.val))) a + S16.size a ≤ S8192.size a
  k0_off1884_inb : ∀ k0_t153 : Fin k0_t153_loop.trips, ∀ (r : Fin 2), ∀ a, (k0_off1884 k0_t153 (BitVec.ofNat 32 (208 + 16 * r.val))) a + S16.size a ≤ S8192.size a
  k0_off1885_inb : ∀ k0_t153 : Fin k0_t153_loop.trips, ∀ (r : Fin 2), ∀ a, (k0_off1885 k0_t153 (BitVec.ofNat 32 (224 + 16 * r.val))) a + S16.size a ≤ S8192.size a
  k0_off1886_inb : ∀ k0_t153 : Fin k0_t153_loop.trips, ∀ a, (k0_off1886 k0_t153) a + S16.size a ≤ S8192.size a
  k0_off1887_inb : ∀ (i : grid0.Coords) (k0_t151 : Fin (k0_t151_loop i).trips), ∀ a, (k0_off1887 i k0_t151) a + S1x8192.size a ≤ S936x16384.size a
  k0_t154_ok : ∀ i : grid0.Coords, (k0_t154_loop i).OK
  k0_off1888_inb : ∀ (i : grid0.Coords) (k0_t154 : Fin (k0_t154_loop i).trips), ∀ a, (k0_off1888 i k0_t154) a + S1x100000.size a ≤ S36x100000.size a
  k0_t155_ok : k0_t155_loop.OK
  k0_off1889_inb : ∀ k0_t155 : Fin k0_t155_loop.trips, ∀ a, (k0_off1889 k0_t155) a + S16.size a ≤ S8192.size a
  k0_off1890_inb : ∀ k0_t155 : Fin k0_t155_loop.trips, ∀ (r : Fin 2), ∀ a, (k0_off1890 k0_t155 (BitVec.ofNat 32 (16 * r.val))) a + S16.size a ≤ S8192.size a
  k0_off1891_inb : ∀ k0_t155 : Fin k0_t155_loop.trips, ∀ (r : Fin 2), ∀ a, (k0_off1891 k0_t155 (BitVec.ofNat 32 (16 + 16 * r.val))) a + S16.size a ≤ S8192.size a
  k0_off1892_inb : ∀ k0_t155 : Fin k0_t155_loop.trips, ∀ (r : Fin 2), ∀ a, (k0_off1892 k0_t155 (BitVec.ofNat 32 (32 + 16 * r.val))) a + S16.size a ≤ S8192.size a
  k0_off1893_inb : ∀ k0_t155 : Fin k0_t155_loop.trips, ∀ (r : Fin 2), ∀ a, (k0_off1893 k0_t155 (BitVec.ofNat 32 (48 + 16 * r.val))) a + S16.size a ≤ S8192.size a
  k0_off1894_inb : ∀ k0_t155 : Fin k0_t155_loop.trips, ∀ (r : Fin 2), ∀ a, (k0_off1894 k0_t155 (BitVec.ofNat 32 (64 + 16 * r.val))) a + S16.size a ≤ S8192.size a
  k0_off1895_inb : ∀ k0_t155 : Fin k0_t155_loop.trips, ∀ (r : Fin 2), ∀ a, (k0_off1895 k0_t155 (BitVec.ofNat 32 (80 + 16 * r.val))) a + S16.size a ≤ S8192.size a
  k0_off1896_inb : ∀ k0_t155 : Fin k0_t155_loop.trips, ∀ (r : Fin 2), ∀ a, (k0_off1896 k0_t155 (BitVec.ofNat 32 (96 + 16 * r.val))) a + S16.size a ≤ S8192.size a
  k0_off1897_inb : ∀ k0_t155 : Fin k0_t155_loop.trips, ∀ (r : Fin 2), ∀ a, (k0_off1897 k0_t155 (BitVec.ofNat 32 (112 + 16 * r.val))) a + S16.size a ≤ S8192.size a
  k0_off1898_inb : ∀ k0_t155 : Fin k0_t155_loop.trips, ∀ (r : Fin 2), ∀ a, (k0_off1898 k0_t155 (BitVec.ofNat 32 (128 + 16 * r.val))) a + S16.size a ≤ S8192.size a
  k0_off1899_inb : ∀ k0_t155 : Fin k0_t155_loop.trips, ∀ (r : Fin 2), ∀ a, (k0_off1899 k0_t155 (BitVec.ofNat 32 (144 + 16 * r.val))) a + S16.size a ≤ S8192.size a
  k0_off1900_inb : ∀ k0_t155 : Fin k0_t155_loop.trips, ∀ (r : Fin 2), ∀ a, (k0_off1900 k0_t155 (BitVec.ofNat 32 (160 + 16 * r.val))) a + S16.size a ≤ S8192.size a
  k0_off1901_inb : ∀ k0_t155 : Fin k0_t155_loop.trips, ∀ (r : Fin 2), ∀ a, (k0_off1901 k0_t155 (BitVec.ofNat 32 (176 + 16 * r.val))) a + S16.size a ≤ S8192.size a
  k0_off1902_inb : ∀ k0_t155 : Fin k0_t155_loop.trips, ∀ (r : Fin 2), ∀ a, (k0_off1902 k0_t155 (BitVec.ofNat 32 (192 + 16 * r.val))) a + S16.size a ≤ S8192.size a
  k0_off1903_inb : ∀ k0_t155 : Fin k0_t155_loop.trips, ∀ (r : Fin 2), ∀ a, (k0_off1903 k0_t155 (BitVec.ofNat 32 (208 + 16 * r.val))) a + S16.size a ≤ S8192.size a
  k0_off1904_inb : ∀ k0_t155 : Fin k0_t155_loop.trips, ∀ (r : Fin 2), ∀ a, (k0_off1904 k0_t155 (BitVec.ofNat 32 (224 + 16 * r.val))) a + S16.size a ≤ S8192.size a
  k0_off1905_inb : ∀ k0_t155 : Fin k0_t155_loop.trips, ∀ a, (k0_off1905 k0_t155) a + S16.size a ≤ S8192.size a
  k0_off1906_inb : ∀ (i : grid0.Coords) (k0_t154 : Fin (k0_t154_loop i).trips), ∀ a, (k0_off1906 i k0_t154) a + S1x8192.size a ≤ S936x16384.size a
  k0_t156_ok : k0_t156_loop.OK
  k0_off1907_inb : ∀ k0_t156 : Fin k0_t156_loop.trips, ∀ a, (k0_off1907 k0_t156) a + S16.size a ≤ S8192.size a
  k0_off1908_inb : ∀ k0_t156 : Fin k0_t156_loop.trips, ∀ (r : Fin 2), ∀ a, (k0_off1908 k0_t156 (BitVec.ofNat 32 (16 * r.val))) a + S16.size a ≤ S8192.size a
  k0_off1909_inb : ∀ k0_t156 : Fin k0_t156_loop.trips, ∀ (r : Fin 2), ∀ a, (k0_off1909 k0_t156 (BitVec.ofNat 32 (16 + 16 * r.val))) a + S16.size a ≤ S8192.size a
  k0_off1910_inb : ∀ k0_t156 : Fin k0_t156_loop.trips, ∀ (r : Fin 2), ∀ a, (k0_off1910 k0_t156 (BitVec.ofNat 32 (32 + 16 * r.val))) a + S16.size a ≤ S8192.size a
  k0_off1911_inb : ∀ k0_t156 : Fin k0_t156_loop.trips, ∀ (r : Fin 2), ∀ a, (k0_off1911 k0_t156 (BitVec.ofNat 32 (48 + 16 * r.val))) a + S16.size a ≤ S8192.size a
  k0_off1912_inb : ∀ k0_t156 : Fin k0_t156_loop.trips, ∀ (r : Fin 2), ∀ a, (k0_off1912 k0_t156 (BitVec.ofNat 32 (64 + 16 * r.val))) a + S16.size a ≤ S8192.size a
  k0_off1913_inb : ∀ k0_t156 : Fin k0_t156_loop.trips, ∀ (r : Fin 2), ∀ a, (k0_off1913 k0_t156 (BitVec.ofNat 32 (80 + 16 * r.val))) a + S16.size a ≤ S8192.size a
  k0_off1914_inb : ∀ k0_t156 : Fin k0_t156_loop.trips, ∀ (r : Fin 2), ∀ a, (k0_off1914 k0_t156 (BitVec.ofNat 32 (96 + 16 * r.val))) a + S16.size a ≤ S8192.size a
  k0_off1915_inb : ∀ k0_t156 : Fin k0_t156_loop.trips, ∀ (r : Fin 2), ∀ a, (k0_off1915 k0_t156 (BitVec.ofNat 32 (112 + 16 * r.val))) a + S16.size a ≤ S8192.size a
  k0_off1916_inb : ∀ k0_t156 : Fin k0_t156_loop.trips, ∀ (r : Fin 2), ∀ a, (k0_off1916 k0_t156 (BitVec.ofNat 32 (128 + 16 * r.val))) a + S16.size a ≤ S8192.size a
  k0_off1917_inb : ∀ k0_t156 : Fin k0_t156_loop.trips, ∀ (r : Fin 2), ∀ a, (k0_off1917 k0_t156 (BitVec.ofNat 32 (144 + 16 * r.val))) a + S16.size a ≤ S8192.size a
  k0_off1918_inb : ∀ k0_t156 : Fin k0_t156_loop.trips, ∀ (r : Fin 2), ∀ a, (k0_off1918 k0_t156 (BitVec.ofNat 32 (160 + 16 * r.val))) a + S16.size a ≤ S8192.size a
  k0_off1919_inb : ∀ k0_t156 : Fin k0_t156_loop.trips, ∀ (r : Fin 2), ∀ a, (k0_off1919 k0_t156 (BitVec.ofNat 32 (176 + 16 * r.val))) a + S16.size a ≤ S8192.size a
  k0_off1920_inb : ∀ k0_t156 : Fin k0_t156_loop.trips, ∀ (r : Fin 2), ∀ a, (k0_off1920 k0_t156 (BitVec.ofNat 32 (192 + 16 * r.val))) a + S16.size a ≤ S8192.size a
  k0_off1921_inb : ∀ k0_t156 : Fin k0_t156_loop.trips, ∀ (r : Fin 2), ∀ a, (k0_off1921 k0_t156 (BitVec.ofNat 32 (208 + 16 * r.val))) a + S16.size a ≤ S8192.size a
  k0_off1922_inb : ∀ k0_t156 : Fin k0_t156_loop.trips, ∀ (r : Fin 2), ∀ a, (k0_off1922 k0_t156 (BitVec.ofNat 32 (224 + 16 * r.val))) a + S16.size a ≤ S8192.size a
  k0_off1923_inb : ∀ k0_t156 : Fin k0_t156_loop.trips, ∀ a, (k0_off1923 k0_t156) a + S16.size a ≤ S8192.size a
  k0_off1924_inb : ∀ (i : grid0.Coords) (k0_t154 : Fin (k0_t154_loop i).trips), ∀ a, (k0_off1924 i k0_t154) a + S1x8192.size a ≤ S936x16384.size a

class Shapes1.Facts₀ : Prop where
  transposes_S16384x26_S26x16384_1_0 : S16384x26.Transposes [1, 0] S26x16384
  transposes_S100000x36_S36x100000_1_0 : S100000x36.Transposes [1, 0] S36x100000
  inb_S26x16384_S1x8192_0_0 : ∀ a, (![0, 0] : Fin 2 → Nat) a + S1x8192.size a ≤ S26x16384.size a
  squeezes_S1x8192_S8192 : S1x8192.Squeezes S8192
  inb_S26x16384_S1x8192_0_8192 : ∀ a, (![0, 8192] : Fin 2 → Nat) a + S1x8192.size a ≤ S26x16384.size a
  squeezes_S1x100000_S100000 : S1x100000.Squeezes S100000
  h_S16 : 0 < S16.numel
  h_S100000 : 0 < S100000.numel
  inb_S26x16384_S1x8192_1_0 : ∀ a, (![1, 0] : Fin 2 → Nat) a + S1x8192.size a ≤ S26x16384.size a
  inb_S26x16384_S1x8192_1_8192 : ∀ a, (![1, 8192] : Fin 2 → Nat) a + S1x8192.size a ≤ S26x16384.size a
  inb_S26x16384_S1x8192_2_0 : ∀ a, (![2, 0] : Fin 2 → Nat) a + S1x8192.size a ≤ S26x16384.size a
  inb_S26x16384_S1x8192_2_8192 : ∀ a, (![2, 8192] : Fin 2 → Nat) a + S1x8192.size a ≤ S26x16384.size a
  inb_S26x16384_S1x8192_3_0 : ∀ a, (![3, 0] : Fin 2 → Nat) a + S1x8192.size a ≤ S26x16384.size a
  inb_S26x16384_S1x8192_3_8192 : ∀ a, (![3, 8192] : Fin 2 → Nat) a + S1x8192.size a ≤ S26x16384.size a
  inb_S26x16384_S1x8192_4_0 : ∀ a, (![4, 0] : Fin 2 → Nat) a + S1x8192.size a ≤ S26x16384.size a
  inb_S26x16384_S1x8192_4_8192 : ∀ a, (![4, 8192] : Fin 2 → Nat) a + S1x8192.size a ≤ S26x16384.size a
  inb_S26x16384_S1x8192_5_0 : ∀ a, (![5, 0] : Fin 2 → Nat) a + S1x8192.size a ≤ S26x16384.size a
  inb_S26x16384_S1x8192_5_8192 : ∀ a, (![5, 8192] : Fin 2 → Nat) a + S1x8192.size a ≤ S26x16384.size a
  inb_S26x16384_S1x8192_6_0 : ∀ a, (![6, 0] : Fin 2 → Nat) a + S1x8192.size a ≤ S26x16384.size a
  inb_S26x16384_S1x8192_6_8192 : ∀ a, (![6, 8192] : Fin 2 → Nat) a + S1x8192.size a ≤ S26x16384.size a
  inb_S26x16384_S1x8192_7_0 : ∀ a, (![7, 0] : Fin 2 → Nat) a + S1x8192.size a ≤ S26x16384.size a
  inb_S26x16384_S1x8192_7_8192 : ∀ a, (![7, 8192] : Fin 2 → Nat) a + S1x8192.size a ≤ S26x16384.size a
  inb_S26x16384_S1x8192_8_0 : ∀ a, (![8, 0] : Fin 2 → Nat) a + S1x8192.size a ≤ S26x16384.size a
  inb_S26x16384_S1x8192_8_8192 : ∀ a, (![8, 8192] : Fin 2 → Nat) a + S1x8192.size a ≤ S26x16384.size a
  inb_S26x16384_S1x8192_9_0 : ∀ a, (![9, 0] : Fin 2 → Nat) a + S1x8192.size a ≤ S26x16384.size a
  inb_S26x16384_S1x8192_9_8192 : ∀ a, (![9, 8192] : Fin 2 → Nat) a + S1x8192.size a ≤ S26x16384.size a
  inb_S26x16384_S1x8192_10_0 : ∀ a, (![10, 0] : Fin 2 → Nat) a + S1x8192.size a ≤ S26x16384.size a
  inb_S26x16384_S1x8192_10_8192 : ∀ a, (![10, 8192] : Fin 2 → Nat) a + S1x8192.size a ≤ S26x16384.size a
  inb_S26x16384_S1x8192_11_0 : ∀ a, (![11, 0] : Fin 2 → Nat) a + S1x8192.size a ≤ S26x16384.size a
  inb_S26x16384_S1x8192_11_8192 : ∀ a, (![11, 8192] : Fin 2 → Nat) a + S1x8192.size a ≤ S26x16384.size a
  inb_S26x16384_S1x8192_12_0 : ∀ a, (![12, 0] : Fin 2 → Nat) a + S1x8192.size a ≤ S26x16384.size a
  inb_S26x16384_S1x8192_12_8192 : ∀ a, (![12, 8192] : Fin 2 → Nat) a + S1x8192.size a ≤ S26x16384.size a
  inb_S26x16384_S1x8192_13_0 : ∀ a, (![13, 0] : Fin 2 → Nat) a + S1x8192.size a ≤ S26x16384.size a
  inb_S26x16384_S1x8192_13_8192 : ∀ a, (![13, 8192] : Fin 2 → Nat) a + S1x8192.size a ≤ S26x16384.size a
  inb_S26x16384_S1x8192_14_0 : ∀ a, (![14, 0] : Fin 2 → Nat) a + S1x8192.size a ≤ S26x16384.size a
  inb_S26x16384_S1x8192_14_8192 : ∀ a, (![14, 8192] : Fin 2 → Nat) a + S1x8192.size a ≤ S26x16384.size a
  inb_S26x16384_S1x8192_15_0 : ∀ a, (![15, 0] : Fin 2 → Nat) a + S1x8192.size a ≤ S26x16384.size a
  inb_S26x16384_S1x8192_15_8192 : ∀ a, (![15, 8192] : Fin 2 → Nat) a + S1x8192.size a ≤ S26x16384.size a
  inb_S26x16384_S1x8192_16_0 : ∀ a, (![16, 0] : Fin 2 → Nat) a + S1x8192.size a ≤ S26x16384.size a
  inb_S26x16384_S1x8192_16_8192 : ∀ a, (![16, 8192] : Fin 2 → Nat) a + S1x8192.size a ≤ S26x16384.size a
  inb_S26x16384_S1x8192_17_0 : ∀ a, (![17, 0] : Fin 2 → Nat) a + S1x8192.size a ≤ S26x16384.size a
  inb_S26x16384_S1x8192_17_8192 : ∀ a, (![17, 8192] : Fin 2 → Nat) a + S1x8192.size a ≤ S26x16384.size a
  inb_S26x16384_S1x8192_18_0 : ∀ a, (![18, 0] : Fin 2 → Nat) a + S1x8192.size a ≤ S26x16384.size a
  inb_S26x16384_S1x8192_18_8192 : ∀ a, (![18, 8192] : Fin 2 → Nat) a + S1x8192.size a ≤ S26x16384.size a
  inb_S26x16384_S1x8192_19_0 : ∀ a, (![19, 0] : Fin 2 → Nat) a + S1x8192.size a ≤ S26x16384.size a
  inb_S26x16384_S1x8192_19_8192 : ∀ a, (![19, 8192] : Fin 2 → Nat) a + S1x8192.size a ≤ S26x16384.size a
  inb_S26x16384_S1x8192_20_0 : ∀ a, (![20, 0] : Fin 2 → Nat) a + S1x8192.size a ≤ S26x16384.size a
  inb_S26x16384_S1x8192_20_8192 : ∀ a, (![20, 8192] : Fin 2 → Nat) a + S1x8192.size a ≤ S26x16384.size a
  inb_S26x16384_S1x8192_21_0 : ∀ a, (![21, 0] : Fin 2 → Nat) a + S1x8192.size a ≤ S26x16384.size a
  inb_S26x16384_S1x8192_21_8192 : ∀ a, (![21, 8192] : Fin 2 → Nat) a + S1x8192.size a ≤ S26x16384.size a
  inb_S26x16384_S1x8192_22_0 : ∀ a, (![22, 0] : Fin 2 → Nat) a + S1x8192.size a ≤ S26x16384.size a
  inb_S26x16384_S1x8192_22_8192 : ∀ a, (![22, 8192] : Fin 2 → Nat) a + S1x8192.size a ≤ S26x16384.size a
  inb_S26x16384_S1x8192_23_0 : ∀ a, (![23, 0] : Fin 2 → Nat) a + S1x8192.size a ≤ S26x16384.size a
  inb_S26x16384_S1x8192_23_8192 : ∀ a, (![23, 8192] : Fin 2 → Nat) a + S1x8192.size a ≤ S26x16384.size a
  inb_S26x16384_S1x8192_24_0 : ∀ a, (![24, 0] : Fin 2 → Nat) a + S1x8192.size a ≤ S26x16384.size a
  inb_S26x16384_S1x8192_24_8192 : ∀ a, (![24, 8192] : Fin 2 → Nat) a + S1x8192.size a ≤ S26x16384.size a
  inb_S26x16384_S1x8192_25_0 : ∀ a, (![25, 0] : Fin 2 → Nat) a + S1x8192.size a ≤ S26x16384.size a
  inb_S26x16384_S1x8192_25_8192 : ∀ a, (![25, 8192] : Fin 2 → Nat) a + S1x8192.size a ≤ S26x16384.size a
  transposes_S936x16384_S16384x936_1_0 : S936x16384.Transposes [1, 0] S16384x936
  hcc0_scoped0 : 0 + S_.numel ≤ 208
  hcc0_scoped1 : 1 + S_.numel ≤ 208
  hcc0_scoped2 : 2 + S_.numel ≤ 208
  hcc0_scoped3 : 3 + S_.numel ≤ 208
  hcc0_scoped4 : 4 + S_.numel ≤ 208
  hcc0_scoped5 : 5 + S_.numel ≤ 208
  hcc0_scoped6 : 6 + S_.numel ≤ 208
  hcc0_scoped7 : 7 + S_.numel ≤ 208
  hcc0_scoped8 : 8 + S_.numel ≤ 208
  hcc0_scoped9 : 9 + S_.numel ≤ 208
  hcc0_scoped10 : 10 + S_.numel ≤ 208
  hcc0_scoped11 : 11 + S_.numel ≤ 208
  hcc0_scoped12 : 12 + S_.numel ≤ 208
  hcc0_scoped13 : 13 + S_.numel ≤ 208
  hcc0_scoped14 : 14 + S_.numel ≤ 208
  hcc0_scoped15 : 15 + S_.numel ≤ 208
  hcc0_scoped16 : 16 + S_.numel ≤ 208
  hcc0_scoped17 : 17 + S_.numel ≤ 208
  hcc0_scoped18 : 18 + S_.numel ≤ 208
  hcc0_scoped19 : 19 + S_.numel ≤ 208
  hcc0_scoped20 : 20 + S_.numel ≤ 208
  hcc0_scoped21 : 21 + S_.numel ≤ 208
  hcc0_scoped22 : 22 + S_.numel ≤ 208
  hcc0_scoped23 : 23 + S_.numel ≤ 208
  hcc0_scoped24 : 24 + S_.numel ≤ 208
  hcc0_scoped25 : 25 + S_.numel ≤ 208
  hcc0_scoped26 : 26 + S_.numel ≤ 208
  hcc0_scoped27 : 27 + S_.numel ≤ 208
  hcc0_scoped28 : 28 + S_.numel ≤ 208
  hcc0_scoped29 : 29 + S_.numel ≤ 208
  hcc0_scoped30 : 30 + S_.numel ≤ 208
  hcc0_scoped31 : 31 + S_.numel ≤ 208
  hcc0_scoped32 : 32 + S_.numel ≤ 208
  hcc0_scoped33 : 33 + S_.numel ≤ 208
  hcc0_scoped34 : 34 + S_.numel ≤ 208
  hcc0_scoped35 : 35 + S_.numel ≤ 208
  hcc0_scoped36 : 36 + S_.numel ≤ 208
  hcc0_scoped37 : 37 + S_.numel ≤ 208
  hcc0_scoped38 : 38 + S_.numel ≤ 208
  hcc0_scoped39 : 39 + S_.numel ≤ 208
  hcc0_scoped40 : 40 + S_.numel ≤ 208
  hcc0_scoped41 : 41 + S_.numel ≤ 208
  hcc0_scoped42 : 42 + S_.numel ≤ 208
  hcc0_scoped43 : 43 + S_.numel ≤ 208
  hcc0_scoped44 : 44 + S_.numel ≤ 208
  hcc0_scoped45 : 45 + S_.numel ≤ 208
  hcc0_scoped46 : 46 + S_.numel ≤ 208
  hcc0_scoped47 : 47 + S_.numel ≤ 208
  hcc0_scoped48 : 48 + S_.numel ≤ 208
  hcc0_scoped49 : 49 + S_.numel ≤ 208
  hcc0_scoped50 : 50 + S_.numel ≤ 208
  hcc0_scoped51 : 51 + S_.numel ≤ 208
  hcc0_scoped52 : 52 + S_.numel ≤ 208
  hcc0_scoped53 : 53 + S_.numel ≤ 208
  hcc0_scoped54 : 54 + S_.numel ≤ 208
  hcc0_scoped55 : 55 + S_.numel ≤ 208
  hcc0_scoped56 : 56 + S_.numel ≤ 208
  hcc0_scoped57 : 57 + S_.numel ≤ 208
  hcc0_scoped58 : 58 + S_.numel ≤ 208
  hcc0_scoped59 : 59 + S_.numel ≤ 208
  hcc0_scoped60 : 60 + S_.numel ≤ 208
  hcc0_scoped61 : 61 + S_.numel ≤ 208
  hcc0_scoped62 : 62 + S_.numel ≤ 208
  hcc0_scoped63 : 63 + S_.numel ≤ 208
  hcc0_scoped64 : 64 + S_.numel ≤ 208
  hcc0_scoped65 : 65 + S_.numel ≤ 208
  hcc0_scoped66 : 66 + S_.numel ≤ 208
  hcc0_scoped67 : 67 + S_.numel ≤ 208
  hcc0_scoped68 : 68 + S_.numel ≤ 208
  hcc0_scoped69 : 69 + S_.numel ≤ 208
  hcc0_scoped70 : 70 + S_.numel ≤ 208
  hcc0_scoped71 : 71 + S_.numel ≤ 208
  hcc0_scoped72 : 72 + S_.numel ≤ 208
  hcc0_scoped73 : 73 + S_.numel ≤ 208
  hcc0_scoped74 : 74 + S_.numel ≤ 208
  hcc0_scoped75 : 75 + S_.numel ≤ 208
  hcc0_scoped76 : 76 + S_.numel ≤ 208
  hcc0_scoped77 : 77 + S_.numel ≤ 208
  hcc0_scoped78 : 78 + S_.numel ≤ 208
  hcc0_scoped79 : 79 + S_.numel ≤ 208
  hcc0_scoped80 : 80 + S_.numel ≤ 208
  hcc0_scoped81 : 81 + S_.numel ≤ 208
  hcc0_scoped82 : 82 + S_.numel ≤ 208
  hcc0_scoped83 : 83 + S_.numel ≤ 208
  hcc0_scoped84 : 84 + S_.numel ≤ 208
  hcc0_scoped85 : 85 + S_.numel ≤ 208
  hcc0_scoped86 : 86 + S_.numel ≤ 208
  hcc0_scoped87 : 87 + S_.numel ≤ 208
  hcc0_scoped88 : 88 + S_.numel ≤ 208
  hcc0_scoped89 : 89 + S_.numel ≤ 208
  hcc0_scoped90 : 90 + S_.numel ≤ 208
  hcc0_scoped91 : 91 + S_.numel ≤ 208
  hcc0_scoped92 : 92 + S_.numel ≤ 208
  hcc0_scoped93 : 93 + S_.numel ≤ 208
  hcc0_scoped94 : 94 + S_.numel ≤ 208
  hcc0_scoped95 : 95 + S_.numel ≤ 208
  hcc0_scoped96 : 96 + S_.numel ≤ 208
  hcc0_scoped97 : 97 + S_.numel ≤ 208
  hcc0_scoped98 : 98 + S_.numel ≤ 208
  hcc0_scoped99 : 99 + S_.numel ≤ 208
  hcc0_scoped100 : 100 + S_.numel ≤ 208
  hcc0_scoped101 : 101 + S_.numel ≤ 208
  hcc0_scoped102 : 102 + S_.numel ≤ 208
  hcc0_scoped103 : 103 + S_.numel ≤ 208
  hcc0_scoped104 : 104 + S_.numel ≤ 208
  hcc0_scoped105 : 105 + S_.numel ≤ 208
  hcc0_scoped106 : 106 + S_.numel ≤ 208
  hcc0_scoped107 : 107 + S_.numel ≤ 208
  hcc0_scoped108 : 108 + S_.numel ≤ 208
  hcc0_scoped109 : 109 + S_.numel ≤ 208
  hcc0_scoped110 : 110 + S_.numel ≤ 208
  hcc0_scoped111 : 111 + S_.numel ≤ 208
  hcc0_scoped112 : 112 + S_.numel ≤ 208
  hcc0_scoped113 : 113 + S_.numel ≤ 208
  hcc0_scoped114 : 114 + S_.numel ≤ 208
  hcc0_scoped115 : 115 + S_.numel ≤ 208
  hcc0_scoped116 : 116 + S_.numel ≤ 208
  hcc0_scoped117 : 117 + S_.numel ≤ 208
  hcc0_scoped118 : 118 + S_.numel ≤ 208
  hcc0_scoped119 : 119 + S_.numel ≤ 208
  hcc0_scoped120 : 120 + S_.numel ≤ 208
  hcc0_scoped121 : 121 + S_.numel ≤ 208
  hcc0_scoped122 : 122 + S_.numel ≤ 208
  hcc0_scoped123 : 123 + S_.numel ≤ 208
  hcc0_scoped124 : 124 + S_.numel ≤ 208
  hcc0_scoped125 : 125 + S_.numel ≤ 208
  hcc0_scoped126 : 126 + S_.numel ≤ 208
  hcc0_scoped127 : 127 + S_.numel ≤ 208
  hcc0_scoped128 : 128 + S_.numel ≤ 208
  hcc0_scoped129 : 129 + S_.numel ≤ 208
  hcc0_scoped130 : 130 + S_.numel ≤ 208
  hcc0_scoped131 : 131 + S_.numel ≤ 208
  hcc0_scoped132 : 132 + S_.numel ≤ 208
  hcc0_scoped133 : 133 + S_.numel ≤ 208
  hcc0_scoped134 : 134 + S_.numel ≤ 208
  hcc0_scoped135 : 135 + S_.numel ≤ 208
  hcc0_scoped136 : 136 + S_.numel ≤ 208
  hcc0_scoped137 : 137 + S_.numel ≤ 208
  hcc0_scoped138 : 138 + S_.numel ≤ 208
  hcc0_scoped139 : 139 + S_.numel ≤ 208
  hcc0_scoped140 : 140 + S_.numel ≤ 208
  hcc0_scoped141 : 141 + S_.numel ≤ 208
  hcc0_scoped142 : 142 + S_.numel ≤ 208
  hcc0_scoped143 : 143 + S_.numel ≤ 208
  hcc0_scoped144 : 144 + S_.numel ≤ 208
  hcc0_scoped145 : 145 + S_.numel ≤ 208
  hcc0_scoped146 : 146 + S_.numel ≤ 208
  hcc0_scoped147 : 147 + S_.numel ≤ 208
  hcc0_scoped148 : 148 + S_.numel ≤ 208
  hcc0_scoped149 : 149 + S_.numel ≤ 208
  hcc0_scoped150 : 150 + S_.numel ≤ 208
  hcc0_scoped151 : 151 + S_.numel ≤ 208
  hcc0_scoped152 : 152 + S_.numel ≤ 208
  hcc0_scoped153 : 153 + S_.numel ≤ 208
  hcc0_scoped154 : 154 + S_.numel ≤ 208
  hcc0_scoped155 : 155 + S_.numel ≤ 208
  hcc0_scoped156 : 156 + S_.numel ≤ 208
  hcc0_scoped157 : 157 + S_.numel ≤ 208
  hcc0_scoped158 : 158 + S_.numel ≤ 208
  hcc0_scoped159 : 159 + S_.numel ≤ 208
  hcc0_scoped160 : 160 + S_.numel ≤ 208
  hcc0_scoped161 : 161 + S_.numel ≤ 208
  hcc0_scoped162 : 162 + S_.numel ≤ 208
  hcc0_scoped163 : 163 + S_.numel ≤ 208
  hcc0_scoped164 : 164 + S_.numel ≤ 208
  hcc0_scoped165 : 165 + S_.numel ≤ 208
  hcc0_scoped166 : 166 + S_.numel ≤ 208
  hcc0_scoped167 : 167 + S_.numel ≤ 208
  hcc0_scoped168 : 168 + S_.numel ≤ 208
  hcc0_scoped169 : 169 + S_.numel ≤ 208
  hcc0_scoped170 : 170 + S_.numel ≤ 208
  hcc0_scoped171 : 171 + S_.numel ≤ 208
  hcc0_scoped172 : 172 + S_.numel ≤ 208
  hcc0_scoped173 : 173 + S_.numel ≤ 208
  hcc0_scoped174 : 174 + S_.numel ≤ 208
  hcc0_scoped175 : 175 + S_.numel ≤ 208
  hcc0_scoped176 : 176 + S_.numel ≤ 208
  hcc0_scoped177 : 177 + S_.numel ≤ 208
  hcc0_scoped178 : 178 + S_.numel ≤ 208
  hcc0_scoped179 : 179 + S_.numel ≤ 208
  hcc0_scoped180 : 180 + S_.numel ≤ 208
  hcc0_scoped181 : 181 + S_.numel ≤ 208
  hcc0_scoped182 : 182 + S_.numel ≤ 208
  hcc0_scoped183 : 183 + S_.numel ≤ 208
  hcc0_scoped184 : 184 + S_.numel ≤ 208
  hcc0_scoped185 : 185 + S_.numel ≤ 208
  hcc0_scoped186 : 186 + S_.numel ≤ 208
  hcc0_scoped187 : 187 + S_.numel ≤ 208
  hcc0_scoped188 : 188 + S_.numel ≤ 208
  hcc0_scoped189 : 189 + S_.numel ≤ 208
  hcc0_scoped190 : 190 + S_.numel ≤ 208
  hcc0_scoped191 : 191 + S_.numel ≤ 208
  hcc0_scoped192 : 192 + S_.numel ≤ 208
  hcc0_scoped193 : 193 + S_.numel ≤ 208
  hcc0_scoped194 : 194 + S_.numel ≤ 208
  hcc0_scoped195 : 195 + S_.numel ≤ 208
  hcc0_scoped196 : 196 + S_.numel ≤ 208
  hcc0_scoped197 : 197 + S_.numel ≤ 208
  hcc0_scoped198 : 198 + S_.numel ≤ 208
  hcc0_scoped199 : 199 + S_.numel ≤ 208
  hcc0_scoped200 : 200 + S_.numel ≤ 208
  hcc0_scoped201 : 201 + S_.numel ≤ 208
  hcc0_scoped202 : 202 + S_.numel ≤ 208
  hcc0_scoped203 : 203 + S_.numel ≤ 208
  hcc0_scoped204 : 204 + S_.numel ≤ 208
  hcc0_scoped205 : 205 + S_.numel ≤ 208
  hcc0_scoped206 : 206 + S_.numel ≤ 208
  hcc0_scoped207 : 207 + S_.numel ≤ 208
  hscKind : ∀ q, scKind q ≠ .tc
  hscCore : ∀ q, scNCore q ≤ τ.nSC
  hscSub : ∀ q, scNSub q ≤ τ.nSub

class Facts₀ : Prop where
  k0_r1 : K0.R1.Facts₀
  k0_r2 : K0.R2.Facts₀
  k0_r3 : K0.R3.Facts₀
  shapes1 : Shapes1.Facts₀
attribute [instance] Facts₀.k0_r1 Facts₀.k0_r2 Facts₀.k0_r3 Facts₀.shapes1

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21
abbrev cc0_scoped22 : DmaSems sig S_ := SemArray.consecutive 22 S_ hcc0_scoped22
abbrev cc0_scoped23 : DmaSems sig S_ := SemArray.consecutive 23 S_ hcc0_scoped23
abbrev cc0_scoped24 : DmaSems sig S_ := SemArray.consecutive 24 S_ hcc0_scoped24
abbrev cc0_scoped25 : DmaSems sig S_ := SemArray.consecutive 25 S_ hcc0_scoped25
abbrev cc0_scoped26 : DmaSems sig S_ := SemArray.consecutive 26 S_ hcc0_scoped26
abbrev cc0_scoped27 : DmaSems sig S_ := SemArray.consecutive 27 S_ hcc0_scoped27
abbrev cc0_scoped28 : DmaSems sig S_ := SemArray.consecutive 28 S_ hcc0_scoped28
abbrev cc0_scoped29 : DmaSems sig S_ := SemArray.consecutive 29 S_ hcc0_scoped29
abbrev cc0_scoped30 : DmaSems sig S_ := SemArray.consecutive 30 S_ hcc0_scoped30
abbrev cc0_scoped31 : DmaSems sig S_ := SemArray.consecutive 31 S_ hcc0_scoped31
abbrev cc0_scoped32 : DmaSems sig S_ := SemArray.consecutive 32 S_ hcc0_scoped32
abbrev cc0_scoped33 : DmaSems sig S_ := SemArray.consecutive 33 S_ hcc0_scoped33
abbrev cc0_scoped34 : DmaSems sig S_ := SemArray.consecutive 34 S_ hcc0_scoped34
abbrev cc0_scoped35 : DmaSems sig S_ := SemArray.consecutive 35 S_ hcc0_scoped35
abbrev cc0_scoped36 : DmaSems sig S_ := SemArray.consecutive 36 S_ hcc0_scoped36
abbrev cc0_scoped37 : DmaSems sig S_ := SemArray.consecutive 37 S_ hcc0_scoped37
abbrev cc0_scoped38 : DmaSems sig S_ := SemArray.consecutive 38 S_ hcc0_scoped38
abbrev cc0_scoped39 : DmaSems sig S_ := SemArray.consecutive 39 S_ hcc0_scoped39
abbrev cc0_scoped40 : DmaSems sig S_ := SemArray.consecutive 40 S_ hcc0_scoped40
abbrev cc0_scoped41 : DmaSems sig S_ := SemArray.consecutive 41 S_ hcc0_scoped41
abbrev cc0_scoped42 : DmaSems sig S_ := SemArray.consecutive 42 S_ hcc0_scoped42
abbrev cc0_scoped43 : DmaSems sig S_ := SemArray.consecutive 43 S_ hcc0_scoped43
abbrev cc0_scoped44 : DmaSems sig S_ := SemArray.consecutive 44 S_ hcc0_scoped44
abbrev cc0_scoped45 : DmaSems sig S_ := SemArray.consecutive 45 S_ hcc0_scoped45
abbrev cc0_scoped46 : DmaSems sig S_ := SemArray.consecutive 46 S_ hcc0_scoped46
abbrev cc0_scoped47 : DmaSems sig S_ := SemArray.consecutive 47 S_ hcc0_scoped47
abbrev cc0_scoped48 : DmaSems sig S_ := SemArray.consecutive 48 S_ hcc0_scoped48
abbrev cc0_scoped49 : DmaSems sig S_ := SemArray.consecutive 49 S_ hcc0_scoped49
abbrev cc0_scoped50 : DmaSems sig S_ := SemArray.consecutive 50 S_ hcc0_scoped50
abbrev cc0_scoped51 : DmaSems sig S_ := SemArray.consecutive 51 S_ hcc0_scoped51
abbrev cc0_scoped52 : DmaSems sig S_ := SemArray.consecutive 52 S_ hcc0_scoped52
abbrev cc0_scoped53 : DmaSems sig S_ := SemArray.consecutive 53 S_ hcc0_scoped53
abbrev cc0_scoped54 : DmaSems sig S_ := SemArray.consecutive 54 S_ hcc0_scoped54
abbrev cc0_scoped55 : DmaSems sig S_ := SemArray.consecutive 55 S_ hcc0_scoped55
abbrev cc0_scoped56 : DmaSems sig S_ := SemArray.consecutive 56 S_ hcc0_scoped56
abbrev cc0_scoped57 : DmaSems sig S_ := SemArray.consecutive 57 S_ hcc0_scoped57
abbrev cc0_scoped58 : DmaSems sig S_ := SemArray.consecutive 58 S_ hcc0_scoped58
abbrev cc0_scoped59 : DmaSems sig S_ := SemArray.consecutive 59 S_ hcc0_scoped59
abbrev cc0_scoped60 : DmaSems sig S_ := SemArray.consecutive 60 S_ hcc0_scoped60
abbrev cc0_scoped61 : DmaSems sig S_ := SemArray.consecutive 61 S_ hcc0_scoped61
abbrev cc0_scoped62 : DmaSems sig S_ := SemArray.consecutive 62 S_ hcc0_scoped62
abbrev cc0_scoped63 : DmaSems sig S_ := SemArray.consecutive 63 S_ hcc0_scoped63
abbrev cc0_scoped64 : DmaSems sig S_ := SemArray.consecutive 64 S_ hcc0_scoped64
abbrev cc0_scoped65 : DmaSems sig S_ := SemArray.consecutive 65 S_ hcc0_scoped65
abbrev cc0_scoped66 : DmaSems sig S_ := SemArray.consecutive 66 S_ hcc0_scoped66
abbrev cc0_scoped67 : DmaSems sig S_ := SemArray.consecutive 67 S_ hcc0_scoped67
abbrev cc0_scoped68 : DmaSems sig S_ := SemArray.consecutive 68 S_ hcc0_scoped68
abbrev cc0_scoped69 : DmaSems sig S_ := SemArray.consecutive 69 S_ hcc0_scoped69
abbrev cc0_scoped70 : DmaSems sig S_ := SemArray.consecutive 70 S_ hcc0_scoped70
abbrev cc0_scoped71 : DmaSems sig S_ := SemArray.consecutive 71 S_ hcc0_scoped71
abbrev cc0_scoped72 : DmaSems sig S_ := SemArray.consecutive 72 S_ hcc0_scoped72
abbrev cc0_scoped73 : DmaSems sig S_ := SemArray.consecutive 73 S_ hcc0_scoped73
abbrev cc0_scoped74 : DmaSems sig S_ := SemArray.consecutive 74 S_ hcc0_scoped74
abbrev cc0_scoped75 : DmaSems sig S_ := SemArray.consecutive 75 S_ hcc0_scoped75
abbrev cc0_scoped76 : DmaSems sig S_ := SemArray.consecutive 76 S_ hcc0_scoped76
abbrev cc0_scoped77 : DmaSems sig S_ := SemArray.consecutive 77 S_ hcc0_scoped77
abbrev cc0_scoped78 : DmaSems sig S_ := SemArray.consecutive 78 S_ hcc0_scoped78
abbrev cc0_scoped79 : DmaSems sig S_ := SemArray.consecutive 79 S_ hcc0_scoped79
abbrev cc0_scoped80 : DmaSems sig S_ := SemArray.consecutive 80 S_ hcc0_scoped80
abbrev cc0_scoped81 : DmaSems sig S_ := SemArray.consecutive 81 S_ hcc0_scoped81
abbrev cc0_scoped82 : DmaSems sig S_ := SemArray.consecutive 82 S_ hcc0_scoped82
abbrev cc0_scoped83 : DmaSems sig S_ := SemArray.consecutive 83 S_ hcc0_scoped83
abbrev cc0_scoped84 : DmaSems sig S_ := SemArray.consecutive 84 S_ hcc0_scoped84
abbrev cc0_scoped85 : DmaSems sig S_ := SemArray.consecutive 85 S_ hcc0_scoped85
abbrev cc0_scoped86 : DmaSems sig S_ := SemArray.consecutive 86 S_ hcc0_scoped86
abbrev cc0_scoped87 : DmaSems sig S_ := SemArray.consecutive 87 S_ hcc0_scoped87
abbrev cc0_scoped88 : DmaSems sig S_ := SemArray.consecutive 88 S_ hcc0_scoped88
abbrev cc0_scoped89 : DmaSems sig S_ := SemArray.consecutive 89 S_ hcc0_scoped89
abbrev cc0_scoped90 : DmaSems sig S_ := SemArray.consecutive 90 S_ hcc0_scoped90
abbrev cc0_scoped91 : DmaSems sig S_ := SemArray.consecutive 91 S_ hcc0_scoped91
abbrev cc0_scoped92 : DmaSems sig S_ := SemArray.consecutive 92 S_ hcc0_scoped92
abbrev cc0_scoped93 : DmaSems sig S_ := SemArray.consecutive 93 S_ hcc0_scoped93
abbrev cc0_scoped94 : DmaSems sig S_ := SemArray.consecutive 94 S_ hcc0_scoped94
abbrev cc0_scoped95 : DmaSems sig S_ := SemArray.consecutive 95 S_ hcc0_scoped95
abbrev cc0_scoped96 : DmaSems sig S_ := SemArray.consecutive 96 S_ hcc0_scoped96
abbrev cc0_scoped97 : DmaSems sig S_ := SemArray.consecutive 97 S_ hcc0_scoped97
abbrev cc0_scoped98 : DmaSems sig S_ := SemArray.consecutive 98 S_ hcc0_scoped98
abbrev cc0_scoped99 : DmaSems sig S_ := SemArray.consecutive 99 S_ hcc0_scoped99
abbrev cc0_scoped100 : DmaSems sig S_ := SemArray.consecutive 100 S_ hcc0_scoped100
abbrev cc0_scoped101 : DmaSems sig S_ := SemArray.consecutive 101 S_ hcc0_scoped101
abbrev cc0_scoped102 : DmaSems sig S_ := SemArray.consecutive 102 S_ hcc0_scoped102
abbrev cc0_scoped103 : DmaSems sig S_ := SemArray.consecutive 103 S_ hcc0_scoped103
abbrev cc0_scoped104 : DmaSems sig S_ := SemArray.consecutive 104 S_ hcc0_scoped104
abbrev cc0_scoped105 : DmaSems sig S_ := SemArray.consecutive 105 S_ hcc0_scoped105
abbrev cc0_scoped106 : DmaSems sig S_ := SemArray.consecutive 106 S_ hcc0_scoped106
abbrev cc0_scoped107 : DmaSems sig S_ := SemArray.consecutive 107 S_ hcc0_scoped107
abbrev cc0_scoped108 : DmaSems sig S_ := SemArray.consecutive 108 S_ hcc0_scoped108
abbrev cc0_scoped109 : DmaSems sig S_ := SemArray.consecutive 109 S_ hcc0_scoped109
abbrev cc0_scoped110 : DmaSems sig S_ := SemArray.consecutive 110 S_ hcc0_scoped110
abbrev cc0_scoped111 : DmaSems sig S_ := SemArray.consecutive 111 S_ hcc0_scoped111
abbrev cc0_scoped112 : DmaSems sig S_ := SemArray.consecutive 112 S_ hcc0_scoped112
abbrev cc0_scoped113 : DmaSems sig S_ := SemArray.consecutive 113 S_ hcc0_scoped113
abbrev cc0_scoped114 : DmaSems sig S_ := SemArray.consecutive 114 S_ hcc0_scoped114
abbrev cc0_scoped115 : DmaSems sig S_ := SemArray.consecutive 115 S_ hcc0_scoped115
abbrev cc0_scoped116 : DmaSems sig S_ := SemArray.consecutive 116 S_ hcc0_scoped116
abbrev cc0_scoped117 : DmaSems sig S_ := SemArray.consecutive 117 S_ hcc0_scoped117
abbrev cc0_scoped118 : DmaSems sig S_ := SemArray.consecutive 118 S_ hcc0_scoped118
abbrev cc0_scoped119 : DmaSems sig S_ := SemArray.consecutive 119 S_ hcc0_scoped119
abbrev cc0_scoped120 : DmaSems sig S_ := SemArray.consecutive 120 S_ hcc0_scoped120
abbrev cc0_scoped121 : DmaSems sig S_ := SemArray.consecutive 121 S_ hcc0_scoped121
abbrev cc0_scoped122 : DmaSems sig S_ := SemArray.consecutive 122 S_ hcc0_scoped122
abbrev cc0_scoped123 : DmaSems sig S_ := SemArray.consecutive 123 S_ hcc0_scoped123
abbrev cc0_scoped124 : DmaSems sig S_ := SemArray.consecutive 124 S_ hcc0_scoped124
abbrev cc0_scoped125 : DmaSems sig S_ := SemArray.consecutive 125 S_ hcc0_scoped125
abbrev cc0_scoped126 : DmaSems sig S_ := SemArray.consecutive 126 S_ hcc0_scoped126
abbrev cc0_scoped127 : DmaSems sig S_ := SemArray.consecutive 127 S_ hcc0_scoped127
abbrev cc0_scoped128 : DmaSems sig S_ := SemArray.consecutive 128 S_ hcc0_scoped128
abbrev cc0_scoped129 : DmaSems sig S_ := SemArray.consecutive 129 S_ hcc0_scoped129
abbrev cc0_scoped130 : DmaSems sig S_ := SemArray.consecutive 130 S_ hcc0_scoped130
abbrev cc0_scoped131 : DmaSems sig S_ := SemArray.consecutive 131 S_ hcc0_scoped131
abbrev cc0_scoped132 : DmaSems sig S_ := SemArray.consecutive 132 S_ hcc0_scoped132
abbrev cc0_scoped133 : DmaSems sig S_ := SemArray.consecutive 133 S_ hcc0_scoped133
abbrev cc0_scoped134 : DmaSems sig S_ := SemArray.consecutive 134 S_ hcc0_scoped134
abbrev cc0_scoped135 : DmaSems sig S_ := SemArray.consecutive 135 S_ hcc0_scoped135
abbrev cc0_scoped136 : DmaSems sig S_ := SemArray.consecutive 136 S_ hcc0_scoped136
abbrev cc0_scoped137 : DmaSems sig S_ := SemArray.consecutive 137 S_ hcc0_scoped137
abbrev cc0_scoped138 : DmaSems sig S_ := SemArray.consecutive 138 S_ hcc0_scoped138
abbrev cc0_scoped139 : DmaSems sig S_ := SemArray.consecutive 139 S_ hcc0_scoped139
abbrev cc0_scoped140 : DmaSems sig S_ := SemArray.consecutive 140 S_ hcc0_scoped140
abbrev cc0_scoped141 : DmaSems sig S_ := SemArray.consecutive 141 S_ hcc0_scoped141
abbrev cc0_scoped142 : DmaSems sig S_ := SemArray.consecutive 142 S_ hcc0_scoped142
abbrev cc0_scoped143 : DmaSems sig S_ := SemArray.consecutive 143 S_ hcc0_scoped143
abbrev cc0_scoped144 : DmaSems sig S_ := SemArray.consecutive 144 S_ hcc0_scoped144
abbrev cc0_scoped145 : DmaSems sig S_ := SemArray.consecutive 145 S_ hcc0_scoped145
abbrev cc0_scoped146 : DmaSems sig S_ := SemArray.consecutive 146 S_ hcc0_scoped146
abbrev cc0_scoped147 : DmaSems sig S_ := SemArray.consecutive 147 S_ hcc0_scoped147
abbrev cc0_scoped148 : DmaSems sig S_ := SemArray.consecutive 148 S_ hcc0_scoped148
abbrev cc0_scoped149 : DmaSems sig S_ := SemArray.consecutive 149 S_ hcc0_scoped149
abbrev cc0_scoped150 : DmaSems sig S_ := SemArray.consecutive 150 S_ hcc0_scoped150
abbrev cc0_scoped151 : DmaSems sig S_ := SemArray.consecutive 151 S_ hcc0_scoped151
abbrev cc0_scoped152 : DmaSems sig S_ := SemArray.consecutive 152 S_ hcc0_scoped152
abbrev cc0_scoped153 : DmaSems sig S_ := SemArray.consecutive 153 S_ hcc0_scoped153
abbrev cc0_scoped154 : DmaSems sig S_ := SemArray.consecutive 154 S_ hcc0_scoped154
abbrev cc0_scoped155 : DmaSems sig S_ := SemArray.consecutive 155 S_ hcc0_scoped155
abbrev cc0_scoped156 : DmaSems sig S_ := SemArray.consecutive 156 S_ hcc0_scoped156
abbrev cc0_scoped157 : DmaSems sig S_ := SemArray.consecutive 157 S_ hcc0_scoped157
abbrev cc0_scoped158 : DmaSems sig S_ := SemArray.consecutive 158 S_ hcc0_scoped158
abbrev cc0_scoped159 : DmaSems sig S_ := SemArray.consecutive 159 S_ hcc0_scoped159
abbrev cc0_scoped160 : DmaSems sig S_ := SemArray.consecutive 160 S_ hcc0_scoped160
abbrev cc0_scoped161 : DmaSems sig S_ := SemArray.consecutive 161 S_ hcc0_scoped161
abbrev cc0_scoped162 : DmaSems sig S_ := SemArray.consecutive 162 S_ hcc0_scoped162
abbrev cc0_scoped163 : DmaSems sig S_ := SemArray.consecutive 163 S_ hcc0_scoped163
abbrev cc0_scoped164 : DmaSems sig S_ := SemArray.consecutive 164 S_ hcc0_scoped164
abbrev cc0_scoped165 : DmaSems sig S_ := SemArray.consecutive 165 S_ hcc0_scoped165
abbrev cc0_scoped166 : DmaSems sig S_ := SemArray.consecutive 166 S_ hcc0_scoped166
abbrev cc0_scoped167 : DmaSems sig S_ := SemArray.consecutive 167 S_ hcc0_scoped167
abbrev cc0_scoped168 : DmaSems sig S_ := SemArray.consecutive 168 S_ hcc0_scoped168
abbrev cc0_scoped169 : DmaSems sig S_ := SemArray.consecutive 169 S_ hcc0_scoped169
abbrev cc0_scoped170 : DmaSems sig S_ := SemArray.consecutive 170 S_ hcc0_scoped170
abbrev cc0_scoped171 : DmaSems sig S_ := SemArray.consecutive 171 S_ hcc0_scoped171
abbrev cc0_scoped172 : DmaSems sig S_ := SemArray.consecutive 172 S_ hcc0_scoped172
abbrev cc0_scoped173 : DmaSems sig S_ := SemArray.consecutive 173 S_ hcc0_scoped173
abbrev cc0_scoped174 : DmaSems sig S_ := SemArray.consecutive 174 S_ hcc0_scoped174
abbrev cc0_scoped175 : DmaSems sig S_ := SemArray.consecutive 175 S_ hcc0_scoped175
abbrev cc0_scoped176 : DmaSems sig S_ := SemArray.consecutive 176 S_ hcc0_scoped176
abbrev cc0_scoped177 : DmaSems sig S_ := SemArray.consecutive 177 S_ hcc0_scoped177
abbrev cc0_scoped178 : DmaSems sig S_ := SemArray.consecutive 178 S_ hcc0_scoped178
abbrev cc0_scoped179 : DmaSems sig S_ := SemArray.consecutive 179 S_ hcc0_scoped179
abbrev cc0_scoped180 : DmaSems sig S_ := SemArray.consecutive 180 S_ hcc0_scoped180
abbrev cc0_scoped181 : DmaSems sig S_ := SemArray.consecutive 181 S_ hcc0_scoped181
abbrev cc0_scoped182 : DmaSems sig S_ := SemArray.consecutive 182 S_ hcc0_scoped182
abbrev cc0_scoped183 : DmaSems sig S_ := SemArray.consecutive 183 S_ hcc0_scoped183
abbrev cc0_scoped184 : DmaSems sig S_ := SemArray.consecutive 184 S_ hcc0_scoped184
abbrev cc0_scoped185 : DmaSems sig S_ := SemArray.consecutive 185 S_ hcc0_scoped185
abbrev cc0_scoped186 : DmaSems sig S_ := SemArray.consecutive 186 S_ hcc0_scoped186
abbrev cc0_scoped187 : DmaSems sig S_ := SemArray.consecutive 187 S_ hcc0_scoped187
abbrev cc0_scoped188 : DmaSems sig S_ := SemArray.consecutive 188 S_ hcc0_scoped188
abbrev cc0_scoped189 : DmaSems sig S_ := SemArray.consecutive 189 S_ hcc0_scoped189
abbrev cc0_scoped190 : DmaSems sig S_ := SemArray.consecutive 190 S_ hcc0_scoped190
abbrev cc0_scoped191 : DmaSems sig S_ := SemArray.consecutive 191 S_ hcc0_scoped191
abbrev cc0_scoped192 : DmaSems sig S_ := SemArray.consecutive 192 S_ hcc0_scoped192
abbrev cc0_scoped193 : DmaSems sig S_ := SemArray.consecutive 193 S_ hcc0_scoped193
abbrev cc0_scoped194 : DmaSems sig S_ := SemArray.consecutive 194 S_ hcc0_scoped194
abbrev cc0_scoped195 : DmaSems sig S_ := SemArray.consecutive 195 S_ hcc0_scoped195
abbrev cc0_scoped196 : DmaSems sig S_ := SemArray.consecutive 196 S_ hcc0_scoped196
abbrev cc0_scoped197 : DmaSems sig S_ := SemArray.consecutive 197 S_ hcc0_scoped197
abbrev cc0_scoped198 : DmaSems sig S_ := SemArray.consecutive 198 S_ hcc0_scoped198
abbrev cc0_scoped199 : DmaSems sig S_ := SemArray.consecutive 199 S_ hcc0_scoped199
abbrev cc0_scoped200 : DmaSems sig S_ := SemArray.consecutive 200 S_ hcc0_scoped200
abbrev cc0_scoped201 : DmaSems sig S_ := SemArray.consecutive 201 S_ hcc0_scoped201
abbrev cc0_scoped202 : DmaSems sig S_ := SemArray.consecutive 202 S_ hcc0_scoped202
abbrev cc0_scoped203 : DmaSems sig S_ := SemArray.consecutive 203 S_ hcc0_scoped203
abbrev cc0_scoped204 : DmaSems sig S_ := SemArray.consecutive 204 S_ hcc0_scoped204
abbrev cc0_scoped205 : DmaSems sig S_ := SemArray.consecutive 205 S_ hcc0_scoped205
abbrev cc0_scoped206 : DmaSems sig S_ := SemArray.consecutive 206 S_ hcc0_scoped206
abbrev cc0_scoped207 : DmaSems sig S_ := SemArray.consecutive 207 S_ hcc0_scoped207

class Facts : Prop extends Facts₀ where

variable [Facts]
-- ==== ReferenceIdeal.lean ====
abbrev S16384x26 : Shape := ⟨2, ![16384, 26]⟩
abbrev S100000x36 : Shape := ⟨2, ![100000, 36]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x36 : Shape := ⟨2, ![16384, 36]⟩
abbrev S16384x576 : Shape := ⟨2, ![16384, 576]⟩
abbrev S16384x360 : Shape := ⟨2, ![16384, 360]⟩
abbrev S16384x936 : Shape := ⟨2, ![16384, 936]⟩

abbrev nBuf : Space → Nat
  | .hbm => 680
  | .vmem => 0
  | .smem => 0
  | _ => 0

abbrev hbmTy0_0 (i : Nat) : BufTy := match i % 128 with
  | 0 => ⟨S16384x26, .i32⟩
  | 1 => ⟨S100000x36, .f32⟩
  | 2 => ⟨S100000x36, .f32⟩
  | 3 => ⟨S100000x36, .f32⟩
  | 4 => ⟨S100000x36, .f32⟩
  | 5 => ⟨S100000x36, .f32⟩
  | 6 => ⟨S100000x36, .f32⟩
  | 7 => ⟨S100000x36, .f32⟩
  | 8 => ⟨S100000x36, .f32⟩
  | 9 => ⟨S100000x36, .f32⟩
  | 10 => ⟨S100000x36, .f32⟩
  | 11 => ⟨S100000x36, .f32⟩
  | 12 => ⟨S100000x36, .f32⟩
  | 13 => ⟨S100000x36, .f32⟩
  | 14 => ⟨S100000x36, .f32⟩
  | 15 => ⟨S100000x36, .f32⟩
  | 16 => ⟨S100000x36, .f32⟩
  | 17 => ⟨S100000x36, .f32⟩
  | 18 => ⟨S100000x36, .f32⟩
  | 19 => ⟨S100000x36, .f32⟩
  | 20 => ⟨S100000x36, .f32⟩
  | 21 => ⟨S100000x36, .f32⟩
  | 22 => ⟨S100000x36, .f32⟩
  | 23 => ⟨S100000x36, .f32⟩
  | 24 => ⟨S100000x36, .f32⟩
  | 25 => ⟨S100000x36, .f32⟩
  | 26 => ⟨S100000x36, .f32⟩
  | 27 => ⟨S16384x1, .i32⟩
  | 28 => ⟨S16384, .i32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S1, .i32⟩
  | 38 => ⟨S_, .i32⟩
  | 39 => ⟨S16384x1, .i32⟩
  | 40 => ⟨S16384x1, .i1⟩
  | 41 => ⟨S1x1, .i32⟩
  | 42 => ⟨S16384x1, .i32⟩
  | 43 => ⟨S16384x1, .i1⟩
  | 44 => ⟨S16384x1, .i1⟩
  | 45 => ⟨S_, .i1⟩
  | 46 => ⟨S16384, .i1⟩
  | 47 => ⟨S16384x36, .f32⟩
  | 48 => ⟨S16384x36, .i1⟩
  | 49 => ⟨S_, .f32⟩
  | 50 => ⟨S16384x36, .f32⟩
  | 51 => ⟨S16384x36, .f32⟩
  | 52 => ⟨S16384x1, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x36, .f32⟩
  | 73 => ⟨S16384x36, .i1⟩
  | 74 => ⟨S_, .f32⟩
  | 75 => ⟨S16384x36, .f32⟩
  | 76 => ⟨S16384x36, .f32⟩
  | 77 => ⟨S16384x1, .i32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S1, .i32⟩
  | 88 => ⟨S_, .i32⟩
  | 89 => ⟨S16384x1, .i32⟩
  | 90 => ⟨S16384x1, .i1⟩
  | 91 => ⟨S1x1, .i32⟩
  | 92 => ⟨S16384x1, .i32⟩
  | 93 => ⟨S16384x1, .i1⟩
  | 94 => ⟨S16384x1, .i1⟩
  | 95 => ⟨S_, .i1⟩
  | 96 => ⟨S16384, .i1⟩
  | 97 => ⟨S16384x36, .f32⟩
  | 98 => ⟨S16384x36, .i1⟩
  | 99 => ⟨S_, .f32⟩
  | 100 => ⟨S16384x36, .f32⟩
  | 101 => ⟨S16384x36, .f32⟩
  | 102 => ⟨S16384x1, .i32⟩
  | 103 => ⟨S16384, .i32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S16384x1, .i32⟩
  | 112 => ⟨S1, .i32⟩
  | 113 => ⟨S_, .i32⟩
  | 114 => ⟨S16384x1, .i32⟩
  | 115 => ⟨S16384x1, .i1⟩
  | 116 => ⟨S1x1, .i32⟩
  | 117 => ⟨S16384x1, .i32⟩
  | 118 => ⟨S16384x1, .i1⟩
  | 119 => ⟨S16384x1, .i1⟩
  | 120 => ⟨S_, .i1⟩
  | 121 => ⟨S16384, .i1⟩
  | 122 => ⟨S16384x36, .f32⟩
  | 123 => ⟨S16384x36, .i1⟩
  | 124 => ⟨S_, .f32⟩
  | 125 => ⟨S16384x36, .f32⟩
  | 126 => ⟨S16384x36, .f32⟩
  | 127 => ⟨S16384x1, .i32⟩
  | _ => ⟨S16384x26, .i32⟩

abbrev hbmTy0_1 (i : Nat) : BufTy := match i % 128 with
  | 0 => ⟨S16384, .i32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S1, .i32⟩
  | 10 => ⟨S_, .i32⟩
  | 11 => ⟨S16384x1, .i32⟩
  | 12 => ⟨S16384x1, .i1⟩
  | 13 => ⟨S1x1, .i32⟩
  | 14 => ⟨S16384x1, .i32⟩
  | 15 => ⟨S16384x1, .i1⟩
  | 16 => ⟨S16384x1, .i1⟩
  | 17 => ⟨S_, .i1⟩
  | 18 => ⟨S16384, .i1⟩
  | 19 => ⟨S16384x36, .f32⟩
  | 20 => ⟨S16384x36, .i1⟩
  | 21 => ⟨S_, .f32⟩
  | 22 => ⟨S16384x36, .f32⟩
  | 23 => ⟨S16384x36, .f32⟩
  | 24 => ⟨S16384x1, .i32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S1, .i32⟩
  | 35 => ⟨S_, .i32⟩
  | 36 => ⟨S16384x1, .i32⟩
  | 37 => ⟨S16384x1, .i1⟩
  | 38 => ⟨S1x1, .i32⟩
  | 39 => ⟨S16384x1, .i32⟩
  | 40 => ⟨S16384x1, .i1⟩
  | 41 => ⟨S16384x1, .i1⟩
  | 42 => ⟨S_, .i1⟩
  | 43 => ⟨S16384, .i1⟩
  | 44 => ⟨S16384x36, .f32⟩
  | 45 => ⟨S16384x36, .i1⟩
  | 46 => ⟨S_, .f32⟩
  | 47 => ⟨S16384x36, .f32⟩
  | 48 => ⟨S16384x36, .f32⟩
  | 49 => ⟨S16384x1, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S1, .i32⟩
  | 60 => ⟨S_, .i32⟩
  | 61 => ⟨S16384x1, .i32⟩
  | 62 => ⟨S16384x1, .i1⟩
  | 63 => ⟨S1x1, .i32⟩
  | 64 => ⟨S16384x1, .i32⟩
  | 65 => ⟨S16384x1, .i1⟩
  | 66 => ⟨S16384x1, .i1⟩
  | 67 => ⟨S_, .i1⟩
  | 68 => ⟨S16384, .i1⟩
  | 69 => ⟨S16384x36, .f32⟩
  | 70 => ⟨S16384x36, .i1⟩
  | 71 => ⟨S_, .f32⟩
  | 72 => ⟨S16384x36, .f32⟩
  | 73 => ⟨S16384x36, .f32⟩
  | 74 => ⟨S16384x1, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S1, .i32⟩
  | 85 => ⟨S_, .i32⟩
  | 86 => ⟨S16384x1, .i32⟩
  | 87 => ⟨S16384x1, .i1⟩
  | 88 => ⟨S1x1, .i32⟩
  | 89 => ⟨S16384x1, .i32⟩
  | 90 => ⟨S16384x1, .i1⟩
  | 91 => ⟨S16384x1, .i1⟩
  | 92 => ⟨S_, .i1⟩
  | 93 => ⟨S16384, .i1⟩
  | 94 => ⟨S16384x36, .f32⟩
  | 95 => ⟨S16384x36, .i1⟩
  | 96 => ⟨S_, .f32⟩
  | 97 => ⟨S16384x36, .f32⟩
  | 98 => ⟨S16384x36, .f32⟩
  | 99 => ⟨S16384x1, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x36, .f32⟩
  | 120 => ⟨S16384x36, .i1⟩
  | 121 => ⟨S_, .f32⟩
  | 122 => ⟨S16384x36, .f32⟩
  | 123 => ⟨S16384x36, .f32⟩
  | 124 => ⟨S16384x1, .i32⟩
  | 125 => ⟨S16384, .i32⟩
  | 126 => ⟨S_, .i32⟩
  | 127 => ⟨S16384, .i32⟩
  | _ => ⟨S16384x26, .i32⟩

abbrev hbmTy0_2 (i : Nat) : BufTy := match i % 128 with
  | 0 => ⟨S16384, .i1⟩
  | 1 => ⟨S_, .i32⟩
  | 2 => ⟨S16384, .i32⟩
  | 3 => ⟨S16384, .i32⟩
  | 4 => ⟨S16384, .i32⟩
  | 5 => ⟨S16384x1, .i32⟩
  | 6 => ⟨S1, .i32⟩
  | 7 => ⟨S_, .i32⟩
  | 8 => ⟨S16384x1, .i32⟩
  | 9 => ⟨S16384x1, .i1⟩
  | 10 => ⟨S1x1, .i32⟩
  | 11 => ⟨S16384x1, .i32⟩
  | 12 => ⟨S16384x1, .i1⟩
  | 13 => ⟨S16384x1, .i1⟩
  | 14 => ⟨S_, .i1⟩
  | 15 => ⟨S16384, .i1⟩
  | 16 => ⟨S16384x36, .f32⟩
  | 17 => ⟨S16384x36, .i1⟩
  | 18 => ⟨S_, .f32⟩
  | 19 => ⟨S16384x36, .f32⟩
  | 20 => ⟨S16384x36, .f32⟩
  | 21 => ⟨S16384x1, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S1, .i32⟩
  | 32 => ⟨S_, .i32⟩
  | 33 => ⟨S16384x1, .i32⟩
  | 34 => ⟨S16384x1, .i1⟩
  | 35 => ⟨S1x1, .i32⟩
  | 36 => ⟨S16384x1, .i32⟩
  | 37 => ⟨S16384x1, .i1⟩
  | 38 => ⟨S16384x1, .i1⟩
  | 39 => ⟨S_, .i1⟩
  | 40 => ⟨S16384, .i1⟩
  | 41 => ⟨S16384x36, .f32⟩
  | 42 => ⟨S16384x36, .i1⟩
  | 43 => ⟨S_, .f32⟩
  | 44 => ⟨S16384x36, .f32⟩
  | 45 => ⟨S16384x36, .f32⟩
  | 46 => ⟨S16384x1, .i32⟩
  | 47 => ⟨S16384, .i32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S1, .i32⟩
  | 57 => ⟨S_, .i32⟩
  | 58 => ⟨S16384x1, .i32⟩
  | 59 => ⟨S16384x1, .i1⟩
  | 60 => ⟨S1x1, .i32⟩
  | 61 => ⟨S16384x1, .i32⟩
  | 62 => ⟨S16384x1, .i1⟩
  | 63 => ⟨S16384x1, .i1⟩
  | 64 => ⟨S_, .i1⟩
  | 65 => ⟨S16384, .i1⟩
  | 66 => ⟨S16384x36, .f32⟩
  | 67 => ⟨S16384x36, .i1⟩
  | 68 => ⟨S_, .f32⟩
  | 69 => ⟨S16384x36, .f32⟩
  | 70 => ⟨S16384x36, .f32⟩
  | 71 => ⟨S16384x1, .i32⟩
  | 72 => ⟨S16384, .i32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x36, .f32⟩
  | 92 => ⟨S16384x36, .i1⟩
  | 93 => ⟨S_, .f32⟩
  | 94 => ⟨S16384x36, .f32⟩
  | 95 => ⟨S16384x36, .f32⟩
  | 96 => ⟨S16384x1, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S1, .i32⟩
  | 107 => ⟨S_, .i32⟩
  | 108 => ⟨S16384x1, .i32⟩
  | 109 => ⟨S16384x1, .i1⟩
  | 110 => ⟨S1x1, .i32⟩
  | 111 => ⟨S16384x1, .i32⟩
  | 112 => ⟨S16384x1, .i1⟩
  | 113 => ⟨S16384x1, .i1⟩
  | 114 => ⟨S_, .i1⟩
  | 115 => ⟨S16384, .i1⟩
  | 116 => ⟨S16384x36, .f32⟩
  | 117 => ⟨S16384x36, .i1⟩
  | 118 => ⟨S_, .f32⟩
  | 119 => ⟨S16384x36, .f32⟩
  | 120 => ⟨S16384x36, .f32⟩
  | 121 => ⟨S16384x1, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S16384x26, .i32⟩

abbrev hbmTy0_3 (i : Nat) : BufTy := match i % 128 with
  | 0 => ⟨S16384, .i32⟩
  | 1 => ⟨S16384, .i32⟩
  | 2 => ⟨S16384x1, .i32⟩
  | 3 => ⟨S1, .i32⟩
  | 4 => ⟨S_, .i32⟩
  | 5 => ⟨S16384x1, .i32⟩
  | 6 => ⟨S16384x1, .i1⟩
  | 7 => ⟨S1x1, .i32⟩
  | 8 => ⟨S16384x1, .i32⟩
  | 9 => ⟨S16384x1, .i1⟩
  | 10 => ⟨S16384x1, .i1⟩
  | 11 => ⟨S_, .i1⟩
  | 12 => ⟨S16384, .i1⟩
  | 13 => ⟨S16384x36, .f32⟩
  | 14 => ⟨S16384x36, .i1⟩
  | 15 => ⟨S_, .f32⟩
  | 16 => ⟨S16384x36, .f32⟩
  | 17 => ⟨S16384x36, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x36, .f32⟩
  | 39 => ⟨S16384x36, .i1⟩
  | 40 => ⟨S_, .f32⟩
  | 41 => ⟨S16384x36, .f32⟩
  | 42 => ⟨S16384x36, .f32⟩
  | 43 => ⟨S16384x1, .i32⟩
  | 44 => ⟨S16384, .i32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S1, .i32⟩
  | 54 => ⟨S_, .i32⟩
  | 55 => ⟨S16384x1, .i32⟩
  | 56 => ⟨S16384x1, .i1⟩
  | 57 => ⟨S1x1, .i32⟩
  | 58 => ⟨S16384x1, .i32⟩
  | 59 => ⟨S16384x1, .i1⟩
  | 60 => ⟨S16384x1, .i1⟩
  | 61 => ⟨S_, .i1⟩
  | 62 => ⟨S16384, .i1⟩
  | 63 => ⟨S16384x36, .f32⟩
  | 64 => ⟨S16384x36, .i1⟩
  | 65 => ⟨S_, .f32⟩
  | 66 => ⟨S16384x36, .f32⟩
  | 67 => ⟨S16384x36, .f32⟩
  | 68 => ⟨S16384x1, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x36, .f32⟩
  | 89 => ⟨S16384x36, .i1⟩
  | 90 => ⟨S_, .f32⟩
  | 91 => ⟨S16384x36, .f32⟩
  | 92 => ⟨S16384x36, .f32⟩
  | 93 => ⟨S16384x1, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384x36, .f32⟩
  | 114 => ⟨S16384x36, .i1⟩
  | 115 => ⟨S_, .f32⟩
  | 116 => ⟨S16384x36, .f32⟩
  | 117 => ⟨S16384x36, .f32⟩
  | 118 => ⟨S16384x1, .i32⟩
  | 119 => ⟨S16384, .i32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S16384x26, .i32⟩

abbrev hbmTy0_4 (i : Nat) : BufTy := match i % 128 with
  | 0 => ⟨S1, .i32⟩
  | 1 => ⟨S_, .i32⟩
  | 2 => ⟨S16384x1, .i32⟩
  | 3 => ⟨S16384x1, .i1⟩
  | 4 => ⟨S1x1, .i32⟩
  | 5 => ⟨S16384x1, .i32⟩
  | 6 => ⟨S16384x1, .i1⟩
  | 7 => ⟨S16384x1, .i1⟩
  | 8 => ⟨S_, .i1⟩
  | 9 => ⟨S16384, .i1⟩
  | 10 => ⟨S16384x36, .f32⟩
  | 11 => ⟨S16384x36, .i1⟩
  | 12 => ⟨S_, .f32⟩
  | 13 => ⟨S16384x36, .f32⟩
  | 14 => ⟨S16384x36, .f32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x36, .f32⟩
  | 36 => ⟨S16384x36, .i1⟩
  | 37 => ⟨S_, .f32⟩
  | 38 => ⟨S16384x36, .f32⟩
  | 39 => ⟨S16384x36, .f32⟩
  | 40 => ⟨S16384x1, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x36, .f32⟩
  | 61 => ⟨S16384x36, .i1⟩
  | 62 => ⟨S_, .f32⟩
  | 63 => ⟨S16384x36, .f32⟩
  | 64 => ⟨S16384x36, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x36, .f32⟩
  | 86 => ⟨S16384x36, .i1⟩
  | 87 => ⟨S_, .f32⟩
  | 88 => ⟨S16384x36, .f32⟩
  | 89 => ⟨S16384x36, .f32⟩
  | 90 => ⟨S16384x1, .i32⟩
  | 91 => ⟨S16384, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x36, .f32⟩
  | 111 => ⟨S16384x36, .i1⟩
  | 112 => ⟨S_, .f32⟩
  | 113 => ⟨S16384x36, .f32⟩
  | 114 => ⟨S16384x36, .f32⟩
  | 115 => ⟨S16384x1, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x26, .i32⟩

abbrev hbmTy0_5 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x36, .f32⟩
  | 8 => ⟨S16384x36, .i1⟩
  | 9 => ⟨S_, .f32⟩
  | 10 => ⟨S16384x36, .f32⟩
  | 11 => ⟨S16384x36, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x36, .f32⟩
  | 33 => ⟨S16384x36, .i1⟩
  | 34 => ⟨S_, .f32⟩
  | 35 => ⟨S16384x36, .f32⟩
  | 36 => ⟨S16384x36, .f32⟩
  | 37 => ⟨S16384x576, .f32⟩
  | 38 => ⟨S16384x360, .f32⟩
  | 39 => ⟨S16384x936, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v8 : Ref sig .tc := ⟨.hbm, 101, rfl⟩
abbrev main_v9 : Ref sig .tc := ⟨.hbm, 102, rfl⟩
abbrev main_v10 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_call3_cst : Ref sig .tc := ⟨.hbm, 124, rfl⟩
abbrev main_call3_v15 : Ref sig .tc := ⟨.hbm, 125, rfl⟩
abbrev main_v11 : Ref sig .tc := ⟨.hbm, 126, rfl⟩
abbrev main_v12 : Ref sig .tc := ⟨.hbm, 127, rfl⟩
abbrev main_v13 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v14 : Ref sig .tc := ⟨.hbm, 151, rfl⟩
abbrev main_v15 : Ref sig .tc := ⟨.hbm, 152, rfl⟩
abbrev main_v16 : Ref sig .tc := ⟨.hbm, 153, rfl⟩
abbrev main_call5_c : Ref sig .tc := ⟨.hbm, 154, rfl⟩
abbrev main_call5_v0 : Ref sig .tc := ⟨.hbm, 155, rfl⟩
abbrev main_call5_v1 : Ref sig .tc := ⟨.hbm, 156, rfl⟩
abbrev main_call5_c_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_c_1 : Ref sig .tc := ⟨.hbm, 162, rfl⟩
abbrev main_call5_c_2 : Ref sig .tc := ⟨.hbm, 163, rfl⟩
abbrev main_call5_v6 : Ref sig .tc := ⟨.hbm, 164, rfl⟩
abbrev main_call5_v7 : Ref sig .tc := ⟨.hbm, 165, rfl⟩
abbrev main_call5_v8 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_c_3 : Ref sig .tc := ⟨.hbm, 170, rfl⟩
abbrev main_call5_v12 : Ref sig .tc := ⟨.hbm, 171, rfl⟩
abbrev main_call5_v13 : Ref sig .tc := ⟨.hbm, 172, rfl⟩
abbrev main_call5_v14 : Ref sig .tc := ⟨.hbm, 173, rfl⟩
abbrev main_call5_cst : Ref sig .tc := ⟨.hbm, 174, rfl⟩
abbrev main_call5_v15 : Ref sig .tc := ⟨.hbm, 175, rfl⟩
abbrev main_v17 : Ref sig .tc := ⟨.hbm, 176, rfl⟩
abbrev main_v18 : Ref sig .tc := ⟨.hbm, 177, rfl⟩
abbrev main_v19 : Ref sig .tc := ⟨.hbm, 178, rfl⟩
abbrev main_call6_c : Ref sig .tc := ⟨.hbm, 179, rfl⟩
abbrev main_call6_v0 : Ref sig .tc := ⟨.hbm, 180, rfl⟩
abbrev main_call6_v1 : Ref sig .tc := ⟨.hbm, 181, rfl⟩
abbrev main_call6_c_0 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_call6_v5 : Ref sig .tc := ⟨.hbm, 186, rfl⟩
abbrev main_call6_c_1 : Ref sig .tc := ⟨.hbm, 187, rfl⟩
abbrev main_call6_c_2 : Ref sig .tc := ⟨.hbm, 188, rfl⟩
abbrev main_call6_v6 : Ref sig .tc := ⟨.hbm, 189, rfl⟩
abbrev main_call6_v7 : Ref sig .tc := ⟨.hbm, 190, rfl⟩
abbrev main_call6_v8 : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_c_3 : Ref sig .tc := ⟨.hbm, 195, rfl⟩
abbrev main_call6_v12 : Ref sig .tc := ⟨.hbm, 196, rfl⟩
abbrev main_call6_v13 : Ref sig .tc := ⟨.hbm, 197, rfl⟩
abbrev main_call6_v14 : Ref sig .tc := ⟨.hbm, 198, rfl⟩
abbrev main_call6_cst : Ref sig .tc := ⟨.hbm, 199, rfl⟩
abbrev main_call6_v15 : Ref sig .tc := ⟨.hbm, 200, rfl⟩
abbrev main_v20 : Ref sig .tc := ⟨.hbm, 201, rfl⟩
abbrev main_v21 : Ref sig .tc := ⟨.hbm, 202, rfl⟩
abbrev main_v22 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v23 : Ref sig .tc := ⟨.hbm, 226, rfl⟩
abbrev main_v24 : Ref sig .tc := ⟨.hbm, 227, rfl⟩
abbrev main_v25 : Ref sig .tc := ⟨.hbm, 228, rfl⟩
abbrev main_call8_c : Ref sig .tc := ⟨.hbm, 229, rfl⟩
abbrev main_call8_v0 : Ref sig .tc := ⟨.hbm, 230, rfl⟩
abbrev main_call8_v1 : Ref sig .tc := ⟨.hbm, 231, rfl⟩
abbrev main_call8_c_0 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_v5 : Ref sig .tc := ⟨.hbm, 236, rfl⟩
abbrev main_call8_c_1 : Ref sig .tc := ⟨.hbm, 237, rfl⟩
abbrev main_call8_c_2 : Ref sig .tc := ⟨.hbm, 238, rfl⟩
abbrev main_call8_v6 : Ref sig .tc := ⟨.hbm, 239, rfl⟩
abbrev main_call8_v7 : Ref sig .tc := ⟨.hbm, 240, rfl⟩
abbrev main_call8_v8 : Ref sig .tc := ⟨.hbm, 241, rfl⟩
abbrev main_call8_v9 : Ref sig .tc := ⟨.hbm, 242, rfl⟩
abbrev main_call8_v10 : Ref sig .tc := ⟨.hbm, 243, rfl⟩
abbrev main_call8_v11 : Ref sig .tc := ⟨.hbm, 244, rfl⟩
abbrev main_call8_c_3 : Ref sig .tc := ⟨.hbm, 245, rfl⟩
abbrev main_call8_v12 : Ref sig .tc := ⟨.hbm, 246, rfl⟩
abbrev main_call8_v13 : Ref sig .tc := ⟨.hbm, 247, rfl⟩
abbrev main_call8_v14 : Ref sig .tc := ⟨.hbm, 248, rfl⟩
abbrev main_call8_cst : Ref sig .tc := ⟨.hbm, 249, rfl⟩
abbrev main_call8_v15 : Ref sig .tc := ⟨.hbm, 250, rfl⟩
abbrev main_v26 : Ref sig .tc := ⟨.hbm, 251, rfl⟩
abbrev main_v27 : Ref sig .tc := ⟨.hbm, 252, rfl⟩
abbrev main_v28 : Ref sig .tc := ⟨.hbm, 253, rfl⟩
abbrev main_call9_c : Ref sig .tc := ⟨.hbm, 254, rfl⟩
abbrev main_call9_v0 : Ref sig .tc := ⟨.hbm, 255, rfl⟩
abbrev main_call9_v1 : Ref sig .tc := ⟨.hbm, 256, rfl⟩
abbrev main_call9_c_0 : Ref sig .tc := ⟨.hbm, 257, rfl⟩
abbrev main_call9_v2 : Ref sig .tc := ⟨.hbm, 258, rfl⟩
abbrev main_call9_v3 : Ref sig .tc := ⟨.hbm, 259, rfl⟩
abbrev main_call9_v4 : Ref sig .tc := ⟨.hbm, 260, rfl⟩
abbrev main_call9_v5 : Ref sig .tc := ⟨.hbm, 261, rfl⟩
abbrev main_call9_c_1 : Ref sig .tc := ⟨.hbm, 262, rfl⟩
abbrev main_call9_c_2 : Ref sig .tc := ⟨.hbm, 263, rfl⟩
abbrev main_call9_v6 : Ref sig .tc := ⟨.hbm, 264, rfl⟩
abbrev main_call9_v7 : Ref sig .tc := ⟨.hbm, 265, rfl⟩
abbrev main_call9_v8 : Ref sig .tc := ⟨.hbm, 266, rfl⟩
abbrev main_call9_v9 : Ref sig .tc := ⟨.hbm, 267, rfl⟩
abbrev main_call9_v10 : Ref sig .tc := ⟨.hbm, 268, rfl⟩
abbrev main_call9_v11 : Ref sig .tc := ⟨.hbm, 269, rfl⟩
abbrev main_call9_c_3 : Ref sig .tc := ⟨.hbm, 270, rfl⟩
abbrev main_call9_v12 : Ref sig .tc := ⟨.hbm, 271, rfl⟩
abbrev main_call9_v13 : Ref sig .tc := ⟨.hbm, 272, rfl⟩
abbrev main_call9_v14 : Ref sig .tc := ⟨.hbm, 273, rfl⟩
abbrev main_call9_cst : Ref sig .tc := ⟨.hbm, 274, rfl⟩
abbrev main_call9_v15 : Ref sig .tc := ⟨.hbm, 275, rfl⟩
abbrev main_v29 : Ref sig .tc := ⟨.hbm, 276, rfl⟩
abbrev main_v30 : Ref sig .tc := ⟨.hbm, 277, rfl⟩
abbrev main_v31 : Ref sig .tc := ⟨.hbm, 278, rfl⟩
abbrev main_call10_c : Ref sig .tc := ⟨.hbm, 279, rfl⟩
abbrev main_call10_v0 : Ref sig .tc := ⟨.hbm, 280, rfl⟩
abbrev main_call10_v1 : Ref sig .tc := ⟨.hbm, 281, rfl⟩
abbrev main_call10_c_0 : Ref sig .tc := ⟨.hbm, 282, rfl⟩
abbrev main_call10_v2 : Ref sig .tc := ⟨.hbm, 283, rfl⟩
abbrev main_call10_v3 : Ref sig .tc := ⟨.hbm, 284, rfl⟩
abbrev main_call10_v4 : Ref sig .tc := ⟨.hbm, 285, rfl⟩
abbrev main_call10_v5 : Ref sig .tc := ⟨.hbm, 286, rfl⟩
abbrev main_call10_c_1 : Ref sig .tc := ⟨.hbm, 287, rfl⟩
abbrev main_call10_c_2 : Ref sig .tc := ⟨.hbm, 288, rfl⟩
abbrev main_call10_v6 : Ref sig .tc := ⟨.hbm, 289, rfl⟩
abbrev main_call10_v7 : Ref sig .tc := ⟨.hbm, 290, rfl⟩
abbrev main_call10_v8 : Ref sig .tc := ⟨.hbm, 291, rfl⟩
abbrev main_call10_v9 : Ref sig .tc := ⟨.hbm, 292, rfl⟩
abbrev main_call10_v10 : Ref sig .tc := ⟨.hbm, 293, rfl⟩
abbrev main_call10_v11 : Ref sig .tc := ⟨.hbm, 294, rfl⟩
abbrev main_call10_c_3 : Ref sig .tc := ⟨.hbm, 295, rfl⟩
abbrev main_call10_v12 : Ref sig .tc := ⟨.hbm, 296, rfl⟩
abbrev main_call10_v13 : Ref sig .tc := ⟨.hbm, 297, rfl⟩
abbrev main_call10_v14 : Ref sig .tc := ⟨.hbm, 298, rfl⟩
abbrev main_call10_cst : Ref sig .tc := ⟨.hbm, 299, rfl⟩
abbrev main_call10_v15 : Ref sig .tc := ⟨.hbm, 300, rfl⟩
abbrev main_v32 : Ref sig .tc := ⟨.hbm, 301, rfl⟩
abbrev main_v33 : Ref sig .tc := ⟨.hbm, 302, rfl⟩
abbrev main_v34 : Ref sig .tc := ⟨.hbm, 303, rfl⟩
abbrev main_call11_c : Ref sig .tc := ⟨.hbm, 304, rfl⟩
abbrev main_call11_v0 : Ref sig .tc := ⟨.hbm, 305, rfl⟩
abbrev main_call11_v1 : Ref sig .tc := ⟨.hbm, 306, rfl⟩
abbrev main_call11_c_0 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_call11_v5 : Ref sig .tc := ⟨.hbm, 311, rfl⟩
abbrev main_call11_c_1 : Ref sig .tc := ⟨.hbm, 312, rfl⟩
abbrev main_call11_c_2 : Ref sig .tc := ⟨.hbm, 313, rfl⟩
abbrev main_call11_v6 : Ref sig .tc := ⟨.hbm, 314, rfl⟩
abbrev main_call11_v7 : Ref sig .tc := ⟨.hbm, 315, rfl⟩
abbrev main_call11_v8 : Ref sig .tc := ⟨.hbm, 316, rfl⟩
abbrev main_call11_v9 : Ref sig .tc := ⟨.hbm, 317, rfl⟩
abbrev main_call11_v10 : Ref sig .tc := ⟨.hbm, 318, rfl⟩
abbrev main_call11_v11 : Ref sig .tc := ⟨.hbm, 319, rfl⟩
abbrev main_call11_c_3 : Ref sig .tc := ⟨.hbm, 320, rfl⟩
abbrev main_call11_v12 : Ref sig .tc := ⟨.hbm, 321, rfl⟩
abbrev main_call11_v13 : Ref sig .tc := ⟨.hbm, 322, rfl⟩
abbrev main_call11_v14 : Ref sig .tc := ⟨.hbm, 323, rfl⟩
abbrev main_call11_cst : Ref sig .tc := ⟨.hbm, 324, rfl⟩
abbrev main_call11_v15 : Ref sig .tc := ⟨.hbm, 325, rfl⟩
abbrev main_v35 : Ref sig .tc := ⟨.hbm, 326, rfl⟩
abbrev main_v36 : Ref sig .tc := ⟨.hbm, 327, rfl⟩
abbrev main_v37 : Ref sig .tc := ⟨.hbm, 328, rfl⟩
abbrev main_call12_c : Ref sig .tc := ⟨.hbm, 329, rfl⟩
abbrev main_call12_v0 : Ref sig .tc := ⟨.hbm, 330, rfl⟩
abbrev main_call12_v1 : Ref sig .tc := ⟨.hbm, 331, rfl⟩
abbrev main_call12_c_0 : Ref sig .tc := ⟨.hbm, 332, rfl⟩
abbrev main_call12_v2 : Ref sig .tc := ⟨.hbm, 333, rfl⟩
abbrev main_call12_v3 : Ref sig .tc := ⟨.hbm, 334, rfl⟩
abbrev main_call12_v4 : Ref sig .tc := ⟨.hbm, 335, rfl⟩
abbrev main_call12_v5 : Ref sig .tc := ⟨.hbm, 336, rfl⟩
abbrev main_call12_c_1 : Ref sig .tc := ⟨.hbm, 337, rfl⟩
abbrev main_call12_c_2 : Ref sig .tc := ⟨.hbm, 338, rfl⟩
abbrev main_call12_v6 : Ref sig .tc := ⟨.hbm, 339, rfl⟩
abbrev main_call12_v7 : Ref sig .tc := ⟨.hbm, 340, rfl⟩
abbrev main_call12_v8 : Ref sig .tc := ⟨.hbm, 341, rfl⟩
abbrev main_call12_v9 : Ref sig .tc := ⟨.hbm, 342, rfl⟩
abbrev main_call12_v10 : Ref sig .tc := ⟨.hbm, 343, rfl⟩
abbrev main_call12_v11 : Ref sig .tc := ⟨.hbm, 344, rfl⟩
abbrev main_call12_c_3 : Ref sig .tc := ⟨.hbm, 345, rfl⟩
abbrev main_call12_v12 : Ref sig .tc := ⟨.hbm, 346, rfl⟩
abbrev main_call12_v13 : Ref sig .tc := ⟨.hbm, 347, rfl⟩
abbrev main_call12_v14 : Ref sig .tc := ⟨.hbm, 348, rfl⟩
abbrev main_call12_cst : Ref sig .tc := ⟨.hbm, 349, rfl⟩
abbrev main_call12_v15 : Ref sig .tc := ⟨.hbm, 350, rfl⟩
abbrev main_v38 : Ref sig .tc := ⟨.hbm, 351, rfl⟩
abbrev main_v39 : Ref sig .tc := ⟨.hbm, 352, rfl⟩
abbrev main_v40 : Ref sig .tc := ⟨.hbm, 353, rfl⟩
abbrev main_call13_c : Ref sig .tc := ⟨.hbm, 354, rfl⟩
abbrev main_call13_v0 : Ref sig .tc := ⟨.hbm, 355, rfl⟩
abbrev main_call13_v1 : Ref sig .tc := ⟨.hbm, 356, rfl⟩
abbrev main_call13_c_0 : Ref sig .tc := ⟨.hbm, 357, rfl⟩
abbrev main_call13_v2 : Ref sig .tc := ⟨.hbm, 358, rfl⟩
abbrev main_call13_v3 : Ref sig .tc := ⟨.hbm, 359, rfl⟩
abbrev main_call13_v4 : Ref sig .tc := ⟨.hbm, 360, rfl⟩
abbrev main_call13_v5 : Ref sig .tc := ⟨.hbm, 361, rfl⟩
abbrev main_call13_c_1 : Ref sig .tc := ⟨.hbm, 362, rfl⟩
abbrev main_call13_c_2 : Ref sig .tc := ⟨.hbm, 363, rfl⟩
abbrev main_call13_v6 : Ref sig .tc := ⟨.hbm, 364, rfl⟩
abbrev main_call13_v7 : Ref sig .tc := ⟨.hbm, 365, rfl⟩
abbrev main_call13_v8 : Ref sig .tc := ⟨.hbm, 366, rfl⟩
abbrev main_call13_v9 : Ref sig .tc := ⟨.hbm, 367, rfl⟩
abbrev main_call13_v10 : Ref sig .tc := ⟨.hbm, 368, rfl⟩
abbrev main_call13_v11 : Ref sig .tc := ⟨.hbm, 369, rfl⟩
abbrev main_call13_c_3 : Ref sig .tc := ⟨.hbm, 370, rfl⟩
abbrev main_call13_v12 : Ref sig .tc := ⟨.hbm, 371, rfl⟩
abbrev main_call13_v13 : Ref sig .tc := ⟨.hbm, 372, rfl⟩
abbrev main_call13_v14 : Ref sig .tc := ⟨.hbm, 373, rfl⟩
abbrev main_call13_cst : Ref sig .tc := ⟨.hbm, 374, rfl⟩
abbrev main_call13_v15 : Ref sig .tc := ⟨.hbm, 375, rfl⟩
abbrev main_v41 : Ref sig .tc := ⟨.hbm, 376, rfl⟩
abbrev main_v42 : Ref sig .tc := ⟨.hbm, 377, rfl⟩
abbrev main_v43 : Ref sig .tc := ⟨.hbm, 378, rfl⟩
abbrev main_call14_c : Ref sig .tc := ⟨.hbm, 379, rfl⟩
abbrev main_call14_v0 : Ref sig .tc := ⟨.hbm, 380, rfl⟩
abbrev main_call14_v1 : Ref sig .tc := ⟨.hbm, 381, rfl⟩
abbrev main_call14_c_0 : Ref sig .tc := ⟨.hbm, 382, rfl⟩
abbrev main_call14_v2 : Ref sig .tc := ⟨.hbm, 383, rfl⟩
abbrev main_call14_v3 : Ref sig .tc := ⟨.hbm, 384, rfl⟩
abbrev main_call14_v4 : Ref sig .tc := ⟨.hbm, 385, rfl⟩
abbrev main_call14_v5 : Ref sig .tc := ⟨.hbm, 386, rfl⟩
abbrev main_call14_c_1 : Ref sig .tc := ⟨.hbm, 387, rfl⟩
abbrev main_call14_c_2 : Ref sig .tc := ⟨.hbm, 388, rfl⟩
abbrev main_call14_v6 : Ref sig .tc := ⟨.hbm, 389, rfl⟩
abbrev main_call14_v7 : Ref sig .tc := ⟨.hbm, 390, rfl⟩
abbrev main_call14_v8 : Ref sig .tc := ⟨.hbm, 391, rfl⟩
abbrev main_call14_v9 : Ref sig .tc := ⟨.hbm, 392, rfl⟩
abbrev main_call14_v10 : Ref sig .tc := ⟨.hbm, 393, rfl⟩
abbrev main_call14_v11 : Ref sig .tc := ⟨.hbm, 394, rfl⟩
abbrev main_call14_c_3 : Ref sig .tc := ⟨.hbm, 395, rfl⟩
abbrev main_call14_v12 : Ref sig .tc := ⟨.hbm, 396, rfl⟩
abbrev main_call14_v13 : Ref sig .tc := ⟨.hbm, 397, rfl⟩
abbrev main_call14_v14 : Ref sig .tc := ⟨.hbm, 398, rfl⟩
abbrev main_call14_cst : Ref sig .tc := ⟨.hbm, 399, rfl⟩
abbrev main_call14_v15 : Ref sig .tc := ⟨.hbm, 400, rfl⟩
abbrev main_v44 : Ref sig .tc := ⟨.hbm, 401, rfl⟩
abbrev main_v45 : Ref sig .tc := ⟨.hbm, 402, rfl⟩
abbrev main_v46 : Ref sig .tc := ⟨.hbm, 403, rfl⟩
abbrev main_call15_c : Ref sig .tc := ⟨.hbm, 404, rfl⟩
abbrev main_call15_v0 : Ref sig .tc := ⟨.hbm, 405, rfl⟩
abbrev main_call15_v1 : Ref sig .tc := ⟨.hbm, 406, rfl⟩
abbrev main_call15_c_0 : Ref sig .tc := ⟨.hbm, 407, rfl⟩
abbrev main_call15_v2 : Ref sig .tc := ⟨.hbm, 408, rfl⟩
abbrev main_call15_v3 : Ref sig .tc := ⟨.hbm, 409, rfl⟩
abbrev main_call15_v4 : Ref sig .tc := ⟨.hbm, 410, rfl⟩
abbrev main_call15_v5 : Ref sig .tc := ⟨.hbm, 411, rfl⟩
abbrev main_call15_c_1 : Ref sig .tc := ⟨.hbm, 412, rfl⟩
abbrev main_call15_c_2 : Ref sig .tc := ⟨.hbm, 413, rfl⟩
abbrev main_call15_v6 : Ref sig .tc := ⟨.hbm, 414, rfl⟩
abbrev main_call15_v7 : Ref sig .tc := ⟨.hbm, 415, rfl⟩
abbrev main_call15_v8 : Ref sig .tc := ⟨.hbm, 416, rfl⟩
abbrev main_call15_v9 : Ref sig .tc := ⟨.hbm, 417, rfl⟩
abbrev main_call15_v10 : Ref sig .tc := ⟨.hbm, 418, rfl⟩
abbrev main_call15_v11 : Ref sig .tc := ⟨.hbm, 419, rfl⟩
abbrev main_call15_c_3 : Ref sig .tc := ⟨.hbm, 420, rfl⟩
abbrev main_call15_v12 : Ref sig .tc := ⟨.hbm, 421, rfl⟩
abbrev main_call15_v13 : Ref sig .tc := ⟨.hbm, 422, rfl⟩
abbrev main_call15_v14 : Ref sig .tc := ⟨.hbm, 423, rfl⟩
abbrev main_call15_cst : Ref sig .tc := ⟨.hbm, 424, rfl⟩
abbrev main_call15_v15 : Ref sig .tc := ⟨.hbm, 425, rfl⟩
abbrev main_v47 : Ref sig .tc := ⟨.hbm, 426, rfl⟩
abbrev main_v48 : Ref sig .tc := ⟨.hbm, 427, rfl⟩
abbrev main_v49 : Ref sig .tc := ⟨.hbm, 428, rfl⟩
abbrev main_call16_c : Ref sig .tc := ⟨.hbm, 429, rfl⟩
abbrev main_call16_v0 : Ref sig .tc := ⟨.hbm, 430, rfl⟩
abbrev main_call16_v1 : Ref sig .tc := ⟨.hbm, 431, rfl⟩
abbrev main_call16_c_0 : Ref sig .tc := ⟨.hbm, 432, rfl⟩
abbrev main_call16_v2 : Ref sig .tc := ⟨.hbm, 433, rfl⟩
abbrev main_call16_v3 : Ref sig .tc := ⟨.hbm, 434, rfl⟩
abbrev main_call16_v4 : Ref sig .tc := ⟨.hbm, 435, rfl⟩
abbrev main_call16_v5 : Ref sig .tc := ⟨.hbm, 436, rfl⟩
abbrev main_call16_c_1 : Ref sig .tc := ⟨.hbm, 437, rfl⟩
abbrev main_call16_c_2 : Ref sig .tc := ⟨.hbm, 438, rfl⟩
abbrev main_call16_v6 : Ref sig .tc := ⟨.hbm, 439, rfl⟩
abbrev main_call16_v7 : Ref sig .tc := ⟨.hbm, 440, rfl⟩
abbrev main_call16_v8 : Ref sig .tc := ⟨.hbm, 441, rfl⟩
abbrev main_call16_v9 : Ref sig .tc := ⟨.hbm, 442, rfl⟩
abbrev main_call16_v10 : Ref sig .tc := ⟨.hbm, 443, rfl⟩
abbrev main_call16_v11 : Ref sig .tc := ⟨.hbm, 444, rfl⟩
abbrev main_call16_c_3 : Ref sig .tc := ⟨.hbm, 445, rfl⟩
abbrev main_call16_v12 : Ref sig .tc := ⟨.hbm, 446, rfl⟩
abbrev main_call16_v13 : Ref sig .tc := ⟨.hbm, 447, rfl⟩
abbrev main_call16_v14 : Ref sig .tc := ⟨.hbm, 448, rfl⟩
abbrev main_call16_cst : Ref sig .tc := ⟨.hbm, 449, rfl⟩
abbrev main_call16_v15 : Ref sig .tc := ⟨.hbm, 450, rfl⟩
abbrev main_v50 : Ref sig .tc := ⟨.hbm, 451, rfl⟩
abbrev main_v51 : Ref sig .tc := ⟨.hbm, 452, rfl⟩
abbrev main_v52 : Ref sig .tc := ⟨.hbm, 453, rfl⟩
abbrev main_call17_c : Ref sig .tc := ⟨.hbm, 454, rfl⟩
abbrev main_call17_v0 : Ref sig .tc := ⟨.hbm, 455, rfl⟩
abbrev main_call17_v1 : Ref sig .tc := ⟨.hbm, 456, rfl⟩
abbrev main_call17_c_0 : Ref sig .tc := ⟨.hbm, 457, rfl⟩
abbrev main_call17_v2 : Ref sig .tc := ⟨.hbm, 458, rfl⟩
abbrev main_call17_v3 : Ref sig .tc := ⟨.hbm, 459, rfl⟩
abbrev main_call17_v4 : Ref sig .tc := ⟨.hbm, 460, rfl⟩
abbrev main_call17_v5 : Ref sig .tc := ⟨.hbm, 461, rfl⟩
abbrev main_call17_c_1 : Ref sig .tc := ⟨.hbm, 462, rfl⟩
abbrev main_call17_c_2 : Ref sig .tc := ⟨.hbm, 463, rfl⟩
abbrev main_call17_v6 : Ref sig .tc := ⟨.hbm, 464, rfl⟩
abbrev main_call17_v7 : Ref sig .tc := ⟨.hbm, 465, rfl⟩
abbrev main_call17_v8 : Ref sig .tc := ⟨.hbm, 466, rfl⟩
abbrev main_call17_v9 : Ref sig .tc := ⟨.hbm, 467, rfl⟩
abbrev main_call17_v10 : Ref sig .tc := ⟨.hbm, 468, rfl⟩
abbrev main_call17_v11 : Ref sig .tc := ⟨.hbm, 469, rfl⟩
abbrev main_call17_c_3 : Ref sig .tc := ⟨.hbm, 470, rfl⟩
abbrev main_call17_v12 : Ref sig .tc := ⟨.hbm, 471, rfl⟩
abbrev main_call17_v13 : Ref sig .tc := ⟨.hbm, 472, rfl⟩
abbrev main_call17_v14 : Ref sig .tc := ⟨.hbm, 473, rfl⟩
abbrev main_call17_cst : Ref sig .tc := ⟨.hbm, 474, rfl⟩
abbrev main_call17_v15 : Ref sig .tc := ⟨.hbm, 475, rfl⟩
abbrev main_v53 : Ref sig .tc := ⟨.hbm, 476, rfl⟩
abbrev main_v54 : Ref sig .tc := ⟨.hbm, 477, rfl⟩
abbrev main_v55 : Ref sig .tc := ⟨.hbm, 478, rfl⟩
abbrev main_call18_c : Ref sig .tc := ⟨.hbm, 479, rfl⟩
abbrev main_call18_v0 : Ref sig .tc := ⟨.hbm, 480, rfl⟩
abbrev main_call18_v1 : Ref sig .tc := ⟨.hbm, 481, rfl⟩
abbrev main_call18_c_0 : Ref sig .tc := ⟨.hbm, 482, rfl⟩
abbrev main_call18_v2 : Ref sig .tc := ⟨.hbm, 483, rfl⟩
abbrev main_call18_v3 : Ref sig .tc := ⟨.hbm, 484, rfl⟩
abbrev main_call18_v4 : Ref sig .tc := ⟨.hbm, 485, rfl⟩
abbrev main_call18_v5 : Ref sig .tc := ⟨.hbm, 486, rfl⟩
abbrev main_call18_c_1 : Ref sig .tc := ⟨.hbm, 487, rfl⟩
abbrev main_call18_c_2 : Ref sig .tc := ⟨.hbm, 488, rfl⟩
abbrev main_call18_v6 : Ref sig .tc := ⟨.hbm, 489, rfl⟩
abbrev main_call18_v7 : Ref sig .tc := ⟨.hbm, 490, rfl⟩
abbrev main_call18_v8 : Ref sig .tc := ⟨.hbm, 491, rfl⟩
abbrev main_call18_v9 : Ref sig .tc := ⟨.hbm, 492, rfl⟩
abbrev main_call18_v10 : Ref sig .tc := ⟨.hbm, 493, rfl⟩
abbrev main_call18_v11 : Ref sig .tc := ⟨.hbm, 494, rfl⟩
abbrev main_call18_c_3 : Ref sig .tc := ⟨.hbm, 495, rfl⟩
abbrev main_call18_v12 : Ref sig .tc := ⟨.hbm, 496, rfl⟩
abbrev main_call18_v13 : Ref sig .tc := ⟨.hbm, 497, rfl⟩
abbrev main_call18_v14 : Ref sig .tc := ⟨.hbm, 498, rfl⟩
abbrev main_call18_cst : Ref sig .tc := ⟨.hbm, 499, rfl⟩
abbrev main_call18_v15 : Ref sig .tc := ⟨.hbm, 500, rfl⟩
abbrev main_v56 : Ref sig .tc := ⟨.hbm, 501, rfl⟩
abbrev main_v57 : Ref sig .tc := ⟨.hbm, 502, rfl⟩
abbrev main_v58 : Ref sig .tc := ⟨.hbm, 503, rfl⟩
abbrev main_call19_c : Ref sig .tc := ⟨.hbm, 504, rfl⟩
abbrev main_call19_v0 : Ref sig .tc := ⟨.hbm, 505, rfl⟩
abbrev main_call19_v1 : Ref sig .tc := ⟨.hbm, 506, rfl⟩
abbrev main_call19_c_0 : Ref sig .tc := ⟨.hbm, 507, rfl⟩
abbrev main_call19_v2 : Ref sig .tc := ⟨.hbm, 508, rfl⟩
abbrev main_call19_v3 : Ref sig .tc := ⟨.hbm, 509, rfl⟩
abbrev main_call19_v4 : Ref sig .tc := ⟨.hbm, 510, rfl⟩
abbrev main_call19_v5 : Ref sig .tc := ⟨.hbm, 511, rfl⟩
abbrev main_call19_c_1 : Ref sig .tc := ⟨.hbm, 512, rfl⟩
abbrev main_call19_c_2 : Ref sig .tc := ⟨.hbm, 513, rfl⟩
abbrev main_call19_v6 : Ref sig .tc := ⟨.hbm, 514, rfl⟩
abbrev main_call19_v7 : Ref sig .tc := ⟨.hbm, 515, rfl⟩
abbrev main_call19_v8 : Ref sig .tc := ⟨.hbm, 516, rfl⟩
abbrev main_call19_v9 : Ref sig .tc := ⟨.hbm, 517, rfl⟩
abbrev main_call19_v10 : Ref sig .tc := ⟨.hbm, 518, rfl⟩
abbrev main_call19_v11 : Ref sig .tc := ⟨.hbm, 519, rfl⟩
abbrev main_call19_c_3 : Ref sig .tc := ⟨.hbm, 520, rfl⟩
abbrev main_call19_v12 : Ref sig .tc := ⟨.hbm, 521, rfl⟩
abbrev main_call19_v13 : Ref sig .tc := ⟨.hbm, 522, rfl⟩
abbrev main_call19_v14 : Ref sig .tc := ⟨.hbm, 523, rfl⟩
abbrev main_call19_cst : Ref sig .tc := ⟨.hbm, 524, rfl⟩
abbrev main_call19_v15 : Ref sig .tc := ⟨.hbm, 525, rfl⟩
abbrev main_v59 : Ref sig .tc := ⟨.hbm, 526, rfl⟩
abbrev main_v60 : Ref sig .tc := ⟨.hbm, 527, rfl⟩
abbrev main_v61 : Ref sig .tc := ⟨.hbm, 528, rfl⟩
abbrev main_call20_c : Ref sig .tc := ⟨.hbm, 529, rfl⟩
abbrev main_call20_v0 : Ref sig .tc := ⟨.hbm, 530, rfl⟩
abbrev main_call20_v1 : Ref sig .tc := ⟨.hbm, 531, rfl⟩
abbrev main_call20_c_0 : Ref sig .tc := ⟨.hbm, 532, rfl⟩
abbrev main_call20_v2 : Ref sig .tc := ⟨.hbm, 533, rfl⟩
abbrev main_call20_v3 : Ref sig .tc := ⟨.hbm, 534, rfl⟩
abbrev main_call20_v4 : Ref sig .tc := ⟨.hbm, 535, rfl⟩
abbrev main_call20_v5 : Ref sig .tc := ⟨.hbm, 536, rfl⟩
abbrev main_call20_c_1 : Ref sig .tc := ⟨.hbm, 537, rfl⟩
abbrev main_call20_c_2 : Ref sig .tc := ⟨.hbm, 538, rfl⟩
abbrev main_call20_v6 : Ref sig .tc := ⟨.hbm, 539, rfl⟩
abbrev main_call20_v7 : Ref sig .tc := ⟨.hbm, 540, rfl⟩
abbrev main_call20_v8 : Ref sig .tc := ⟨.hbm, 541, rfl⟩
abbrev main_call20_v9 : Ref sig .tc := ⟨.hbm, 542, rfl⟩
abbrev main_call20_v10 : Ref sig .tc := ⟨.hbm, 543, rfl⟩
abbrev main_call20_v11 : Ref sig .tc := ⟨.hbm, 544, rfl⟩
abbrev main_call20_c_3 : Ref sig .tc := ⟨.hbm, 545, rfl⟩
abbrev main_call20_v12 : Ref sig .tc := ⟨.hbm, 546, rfl⟩
abbrev main_call20_v13 : Ref sig .tc := ⟨.hbm, 547, rfl⟩
abbrev main_call20_v14 : Ref sig .tc := ⟨.hbm, 548, rfl⟩
abbrev main_call20_cst : Ref sig .tc := ⟨.hbm, 549, rfl⟩
abbrev main_call20_v15 : Ref sig .tc := ⟨.hbm, 550, rfl⟩
abbrev main_v62 : Ref sig .tc := ⟨.hbm, 551, rfl⟩
abbrev main_v63 : Ref sig .tc := ⟨.hbm, 552, rfl⟩
abbrev main_v64 : Ref sig .tc := ⟨.hbm, 553, rfl⟩
abbrev main_call21_c : Ref sig .tc := ⟨.hbm, 554, rfl⟩
abbrev main_call21_v0 : Ref sig .tc := ⟨.hbm, 555, rfl⟩
abbrev main_call21_v1 : Ref sig .tc := ⟨.hbm, 556, rfl⟩
abbrev main_call21_c_0 : Ref sig .tc := ⟨.hbm, 557, rfl⟩
abbrev main_call21_v2 : Ref sig .tc := ⟨.hbm, 558, rfl⟩
abbrev main_call21_v3 : Ref sig .tc := ⟨.hbm, 559, rfl⟩
abbrev main_call21_v4 : Ref sig .tc := ⟨.hbm, 560, rfl⟩
abbrev main_call21_v5 : Ref sig .tc := ⟨.hbm, 561, rfl⟩
abbrev main_call21_c_1 : Ref sig .tc := ⟨.hbm, 562, rfl⟩
abbrev main_call21_c_2 : Ref sig .tc := ⟨.hbm, 563, rfl⟩
abbrev main_call21_v6 : Ref sig .tc := ⟨.hbm, 564, rfl⟩
abbrev main_call21_v7 : Ref sig .tc := ⟨.hbm, 565, rfl⟩
abbrev main_call21_v8 : Ref sig .tc := ⟨.hbm, 566, rfl⟩
abbrev main_call21_v9 : Ref sig .tc := ⟨.hbm, 567, rfl⟩
abbrev main_call21_v10 : Ref sig .tc := ⟨.hbm, 568, rfl⟩
abbrev main_call21_v11 : Ref sig .tc := ⟨.hbm, 569, rfl⟩
abbrev main_call21_c_3 : Ref sig .tc := ⟨.hbm, 570, rfl⟩
abbrev main_call21_v12 : Ref sig .tc := ⟨.hbm, 571, rfl⟩
abbrev main_call21_v13 : Ref sig .tc := ⟨.hbm, 572, rfl⟩
abbrev main_call21_v14 : Ref sig .tc := ⟨.hbm, 573, rfl⟩
abbrev main_call21_cst : Ref sig .tc := ⟨.hbm, 574, rfl⟩
abbrev main_call21_v15 : Ref sig .tc := ⟨.hbm, 575, rfl⟩
abbrev main_v65 : Ref sig .tc := ⟨.hbm, 576, rfl⟩
abbrev main_v66 : Ref sig .tc := ⟨.hbm, 577, rfl⟩
abbrev main_v67 : Ref sig .tc := ⟨.hbm, 578, rfl⟩
abbrev main_call22_c : Ref sig .tc := ⟨.hbm, 579, rfl⟩
abbrev main_call22_v0 : Ref sig .tc := ⟨.hbm, 580, rfl⟩
abbrev main_call22_v1 : Ref sig .tc := ⟨.hbm, 581, rfl⟩
abbrev main_call22_c_0 : Ref sig .tc := ⟨.hbm, 582, rfl⟩
abbrev main_call22_v2 : Ref sig .tc := ⟨.hbm, 583, rfl⟩
abbrev main_call22_v3 : Ref sig .tc := ⟨.hbm, 584, rfl⟩
abbrev main_call22_v4 : Ref sig .tc := ⟨.hbm, 585, rfl⟩
abbrev main_call22_v5 : Ref sig .tc := ⟨.hbm, 586, rfl⟩
abbrev main_call22_c_1 : Ref sig .tc := ⟨.hbm, 587, rfl⟩
abbrev main_call22_c_2 : Ref sig .tc := ⟨.hbm, 588, rfl⟩
abbrev main_call22_v6 : Ref sig .tc := ⟨.hbm, 589, rfl⟩
abbrev main_call22_v7 : Ref sig .tc := ⟨.hbm, 590, rfl⟩
abbrev main_call22_v8 : Ref sig .tc := ⟨.hbm, 591, rfl⟩
abbrev main_call22_v9 : Ref sig .tc := ⟨.hbm, 592, rfl⟩
abbrev main_call22_v10 : Ref sig .tc := ⟨.hbm, 593, rfl⟩
abbrev main_call22_v11 : Ref sig .tc := ⟨.hbm, 594, rfl⟩
abbrev main_call22_c_3 : Ref sig .tc := ⟨.hbm, 595, rfl⟩
abbrev main_call22_v12 : Ref sig .tc := ⟨.hbm, 596, rfl⟩
abbrev main_call22_v13 : Ref sig .tc := ⟨.hbm, 597, rfl⟩
abbrev main_call22_v14 : Ref sig .tc := ⟨.hbm, 598, rfl⟩
abbrev main_call22_cst : Ref sig .tc := ⟨.hbm, 599, rfl⟩
abbrev main_call22_v15 : Ref sig .tc := ⟨.hbm, 600, rfl⟩
abbrev main_v68 : Ref sig .tc := ⟨.hbm, 601, rfl⟩
abbrev main_v69 : Ref sig .tc := ⟨.hbm, 602, rfl⟩
abbrev main_v70 : Ref sig .tc := ⟨.hbm, 603, rfl⟩
abbrev main_call23_c : Ref sig .tc := ⟨.hbm, 604, rfl⟩
abbrev main_call23_v0 : Ref sig .tc := ⟨.hbm, 605, rfl⟩
abbrev main_call23_v1 : Ref sig .tc := ⟨.hbm, 606, rfl⟩
abbrev main_call23_c_0 : Ref sig .tc := ⟨.hbm, 607, rfl⟩
abbrev main_call23_v2 : Ref sig .tc := ⟨.hbm, 608, rfl⟩
abbrev main_call23_v3 : Ref sig .tc := ⟨.hbm, 609, rfl⟩
abbrev main_call23_v4 : Ref sig .tc := ⟨.hbm, 610, rfl⟩
abbrev main_call23_v5 : Ref sig .tc := ⟨.hbm, 611, rfl⟩
abbrev main_call23_c_1 : Ref sig .tc := ⟨.hbm, 612, rfl⟩
abbrev main_call23_c_2 : Ref sig .tc := ⟨.hbm, 613, rfl⟩
abbrev main_call23_v6 : Ref sig .tc := ⟨.hbm, 614, rfl⟩
abbrev main_call23_v7 : Ref sig .tc := ⟨.hbm, 615, rfl⟩
abbrev main_call23_v8 : Ref sig .tc := ⟨.hbm, 616, rfl⟩
abbrev main_call23_v9 : Ref sig .tc := ⟨.hbm, 617, rfl⟩
abbrev main_call23_v10 : Ref sig .tc := ⟨.hbm, 618, rfl⟩
abbrev main_call23_v11 : Ref sig .tc := ⟨.hbm, 619, rfl⟩
abbrev main_call23_c_3 : Ref sig .tc := ⟨.hbm, 620, rfl⟩
abbrev main_call23_v12 : Ref sig .tc := ⟨.hbm, 621, rfl⟩
abbrev main_call23_v13 : Ref sig .tc := ⟨.hbm, 622, rfl⟩
abbrev main_call23_v14 : Ref sig .tc := ⟨.hbm, 623, rfl⟩
abbrev main_call23_cst : Ref sig .tc := ⟨.hbm, 624, rfl⟩
abbrev main_call23_v15 : Ref sig .tc := ⟨.hbm, 625, rfl⟩
abbrev main_v71 : Ref sig .tc := ⟨.hbm, 626, rfl⟩
abbrev main_v72 : Ref sig .tc := ⟨.hbm, 627, rfl⟩
abbrev main_v73 : Ref sig .tc := ⟨.hbm, 628, rfl⟩
abbrev main_call24_c : Ref sig .tc := ⟨.hbm, 629, rfl⟩
abbrev main_call24_v0 : Ref sig .tc := ⟨.hbm, 630, rfl⟩
abbrev main_call24_v1 : Ref sig .tc := ⟨.hbm, 631, rfl⟩
abbrev main_call24_c_0 : Ref sig .tc := ⟨.hbm, 632, rfl⟩
abbrev main_call24_v2 : Ref sig .tc := ⟨.hbm, 633, rfl⟩
abbrev main_call24_v3 : Ref sig .tc := ⟨.hbm, 634, rfl⟩
abbrev main_call24_v4 : Ref sig .tc := ⟨.hbm, 635, rfl⟩
abbrev main_call24_v5 : Ref sig .tc := ⟨.hbm, 636, rfl⟩
abbrev main_call24_c_1 : Ref sig .tc := ⟨.hbm, 637, rfl⟩
abbrev main_call24_c_2 : Ref sig .tc := ⟨.hbm, 638, rfl⟩
abbrev main_call24_v6 : Ref sig .tc := ⟨.hbm, 639, rfl⟩
abbrev main_call24_v7 : Ref sig .tc := ⟨.hbm, 640, rfl⟩
abbrev main_call24_v8 : Ref sig .tc := ⟨.hbm, 641, rfl⟩
abbrev main_call24_v9 : Ref sig .tc := ⟨.hbm, 642, rfl⟩
abbrev main_call24_v10 : Ref sig .tc := ⟨.hbm, 643, rfl⟩
abbrev main_call24_v11 : Ref sig .tc := ⟨.hbm, 644, rfl⟩
abbrev main_call24_c_3 : Ref sig .tc := ⟨.hbm, 645, rfl⟩
abbrev main_call24_v12 : Ref sig .tc := ⟨.hbm, 646, rfl⟩
abbrev main_call24_v13 : Ref sig .tc := ⟨.hbm, 647, rfl⟩
abbrev main_call24_v14 : Ref sig .tc := ⟨.hbm, 648, rfl⟩
abbrev main_call24_cst : Ref sig .tc := ⟨.hbm, 649, rfl⟩
abbrev main_call24_v15 : Ref sig .tc := ⟨.hbm, 650, rfl⟩
abbrev main_v74 : Ref sig .tc := ⟨.hbm, 651, rfl⟩
abbrev main_v75 : Ref sig .tc := ⟨.hbm, 652, rfl⟩
abbrev main_v76 : Ref sig .tc := ⟨.hbm, 653, rfl⟩
abbrev main_call25_c : Ref sig .tc := ⟨.hbm, 654, rfl⟩
abbrev main_call25_v0 : Ref sig .tc := ⟨.hbm, 655, rfl⟩
abbrev main_call25_v1 : Ref sig .tc := ⟨.hbm, 656, rfl⟩
abbrev main_call25_c_0 : Ref sig .tc := ⟨.hbm, 657, rfl⟩
abbrev main_call25_v2 : Ref sig .tc := ⟨.hbm, 658, rfl⟩
abbrev main_call25_v3 : Ref sig .tc := ⟨.hbm, 659, rfl⟩
abbrev main_call25_v4 : Ref sig .tc := ⟨.hbm, 660, rfl⟩
abbrev main_call25_v5 : Ref sig .tc := ⟨.hbm, 661, rfl⟩
abbrev main_call25_c_1 : Ref sig .tc := ⟨.hbm, 662, rfl⟩
abbrev main_call25_c_2 : Ref sig .tc := ⟨.hbm, 663, rfl⟩
abbrev main_call25_v6 : Ref sig .tc := ⟨.hbm, 664, rfl⟩
abbrev main_call25_v7 : Ref sig .tc := ⟨.hbm, 665, rfl⟩
abbrev main_call25_v8 : Ref sig .tc := ⟨.hbm, 666, rfl⟩
abbrev main_call25_v9 : Ref sig .tc := ⟨.hbm, 667, rfl⟩
abbrev main_call25_v10 : Ref sig .tc := ⟨.hbm, 668, rfl⟩
abbrev main_call25_v11 : Ref sig .tc := ⟨.hbm, 669, rfl⟩
abbrev main_call25_c_3 : Ref sig .tc := ⟨.hbm, 670, rfl⟩
abbrev main_call25_v12 : Ref sig .tc := ⟨.hbm, 671, rfl⟩
abbrev main_call25_v13 : Ref sig .tc := ⟨.hbm, 672, rfl⟩
abbrev main_call25_v14 : Ref sig .tc := ⟨.hbm, 673, rfl⟩
abbrev main_call25_cst : Ref sig .tc := ⟨.hbm, 674, rfl⟩
abbrev main_call25_v15 : Ref sig .tc := ⟨.hbm, 675, rfl⟩
abbrev main_v77 : Ref sig .tc := ⟨.hbm, 676, rfl⟩
abbrev main_v78 : Ref sig .tc := ⟨.hbm, 677, rfl⟩
abbrev main_v79 : Ref sig .tc := ⟨.hbm, 678, rfl⟩
abbrev main_v80 : Ref sig .tc := ⟨.hbm, 679, rfl⟩

abbrev nD : Nat := 1
abbrev τ : Topo := Topo.v7x

variable {F : FTy → Type} [FloatOps F]

class Facts₀ : Prop where
  slices_S16384x26_S16384x1_0_0 : S16384x26.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x36_0 : S16384.BroadcastsInDim S16384x36 (![0] : Fin 1 → Fin S16384x36.rank)
  bcast_S_S16384x36 : S_.BroadcastsInDim S16384x36 (![] : Fin 0 → Fin S16384x36.rank)
  slices_S16384x26_S16384x1_0_1 : S16384x26.Slices ![0, 1] S16384x1
  slices_S16384x26_S16384x1_0_2 : S16384x26.Slices ![0, 2] S16384x1
  slices_S16384x26_S16384x1_0_3 : S16384x26.Slices ![0, 3] S16384x1
  slices_S16384x26_S16384x1_0_4 : S16384x26.Slices ![0, 4] S16384x1
  slices_S16384x26_S16384x1_0_5 : S16384x26.Slices ![0, 5] S16384x1
  slices_S16384x26_S16384x1_0_6 : S16384x26.Slices ![0, 6] S16384x1
  slices_S16384x26_S16384x1_0_7 : S16384x26.Slices ![0, 7] S16384x1
  slices_S16384x26_S16384x1_0_8 : S16384x26.Slices ![0, 8] S16384x1
  slices_S16384x26_S16384x1_0_9 : S16384x26.Slices ![0, 9] S16384x1
  slices_S16384x26_S16384x1_0_10 : S16384x26.Slices ![0, 10] S16384x1
  slices_S16384x26_S16384x1_0_11 : S16384x26.Slices ![0, 11] S16384x1
  slices_S16384x26_S16384x1_0_12 : S16384x26.Slices ![0, 12] S16384x1
  slices_S16384x26_S16384x1_0_13 : S16384x26.Slices ![0, 13] S16384x1
  slices_S16384x26_S16384x1_0_14 : S16384x26.Slices ![0, 14] S16384x1
  slices_S16384x26_S16384x1_0_15 : S16384x26.Slices ![0, 15] S16384x1
  slices_S16384x26_S16384x1_0_16 : S16384x26.Slices ![0, 16] S16384x1
  slices_S16384x26_S16384x1_0_17 : S16384x26.Slices ![0, 17] S16384x1
  slices_S16384x26_S16384x1_0_18 : S16384x26.Slices ![0, 18] S16384x1
  slices_S16384x26_S16384x1_0_19 : S16384x26.Slices ![0, 19] S16384x1
  slices_S16384x26_S16384x1_0_20 : S16384x26.Slices ![0, 20] S16384x1
  slices_S16384x26_S16384x1_0_21 : S16384x26.Slices ![0, 21] S16384x1
  slices_S16384x26_S16384x1_0_22 : S16384x26.Slices ![0, 22] S16384x1
  slices_S16384x26_S16384x1_0_23 : S16384x26.Slices ![0, 23] S16384x1
  slices_S16384x26_S16384x1_0_24 : S16384x26.Slices ![0, 24] S16384x1
  slices_S16384x26_S16384x1_0_25 : S16384x26.Slices ![0, 25] S16384x1
  concatenates_S16384x36_S16384x36_S16384x36_S16384x36_S16384x36_S16384x36_S16384x36_S16384x36_S16384x36_S16384x36_S16384x36_S16384x36_S16384x36_S16384x36_S16384x36_S16384x36_S16384x576_d1 : Shape.Concatenates [S16384x36, S16384x36, S16384x36, S16384x36, S16384x36, S16384x36, S16384x36, S16384x36, S16384x36, S16384x36, S16384x36, S16384x36, S16384x36, S16384x36, S16384x36, S16384x36] S16384x576 1
  concatenates_S16384x36_S16384x36_S16384x36_S16384x36_S16384x36_S16384x36_S16384x36_S16384x36_S16384x36_S16384x36_S16384x360_d1 : Shape.Concatenates [S16384x36, S16384x36, S16384x36, S16384x36, S16384x36, S16384x36, S16384x36, S16384x36, S16384x36, S16384x36] S16384x360 1
  concatenates_S16384x576_S16384x360_S16384x936_d1 : Shape.Concatenates [S16384x576, S16384x360] S16384x936 1
  gather_S100000x36_S16384x1_S16384x36_1_0_n_n_0_1_136_wf : GatherDims.WF S100000x36 S16384x1 S16384x36 [1] [0] [] [0] [] 1 ![1, 36]

variable [Facts₀]

def gather_S100000x36_S16384x1_S16384x36_1_0_n_n_0_1_136 : GatherDims S100000x36 S16384x1 S16384x36 where
  offsetDims := [1]
  collapsedSliceDims := [0]
  operandBatchingDims := []
  startIndicesBatchingDims := []
  startIndexMap := [0]
  indexVectorDim := 1
  sliceSizes := ![1, 36]
  wf := gather_S100000x36_S16384x1_S16384x36_1_0_n_n_0_1_136_wf

class Facts : Prop extends Facts₀ where

variable [Facts]
-- ==== Proof.Spec.lean ====
/-
  The specification of the embedding lookup, as pure functions of the argument arrays.

  There are 26 tables of 100000 rows by 36 columns and an index array of 16384 rows by 26 columns.
  The result has 16384 rows and 936 = 26 * 36 columns: column u = 36 f + d of row b is entry d of the row of
  table f selected by the index word at (b, f).  The kernel works on the transposed arrays and produces the
  transposed result, one output row per unit u; the 936 units are dealt to 32 tiles in consecutive ranges
  [lo w, hi w) with lo w = w * 936 / 32.
-/
import Idealize.ShloMosaic.Lib.ValueIdx

namespace Cert.Spec

open Idealize.ShloMosaic Idealize.ShloMosaic.ValueIdx

/-! ## The 32 consecutive unit ranges -/

/-- First unit of tile `w`. -/
def lo (w : ℕ) : ℕ := w * 936 / 32
/-- One past the last unit of tile `w`. -/
def hi (w : ℕ) : ℕ := (w + 1) * 936 / 32

theorem hi_eq_lo_succ (w : ℕ) : hi w = lo (w + 1) := rfl
theorem lo_zero : lo 0 = 0 := rfl
theorem lo_last : lo 32 = 936 := rfl
theorem lo_le_hi (w : ℕ) : lo w ≤ hi w := by unfold lo hi; omega
theorem lo_mono {v w : ℕ} (h : v ≤ w) : lo v ≤ lo w := by unfold lo; omega
theorem hi_le (w : ℕ) (hw : w < 32) : hi w ≤ 936 := by unfold hi; omega

/-- The tile that owns unit `u`: the ranges are consecutive, so it is the least `w` with `u < hi w`; in closed
    form `(32 u + 31) / 936`. -/
def owner (u : ℕ) : ℕ := (32 * u + 31) / 936

theorem owner_lt {u : ℕ} (hu : u < 936) : owner u < 32 := by unfold owner; omega
theorem lo_owner_le (u : ℕ) : lo (owner u) ≤ u := by unfold lo owner; omega
theorem lt_hi_owner (u : ℕ) : u < hi (owner u) := by unfold hi owner; omega
/-- A unit lies in exactly one range. -/
theorem owner_unique {u w : ℕ} (h1 : lo w ≤ u) (h2 : u < hi w) : w = owner u := by
  unfold lo hi at *; unfold owner; omega

/-! ## Field and component of a unit, row selected by an index word -/

/-- The table a unit reads: `u / 36`. -/
def fieldOf (u : Fin 936) : Fin 26 := ⟨u.val / 36, by omega⟩
/-- The column of that table a unit reads: `u % 36`. -/
def compOf (u : Fin 936) : Fin 36 := ⟨u.val % 36, Nat.mod_lt _ (by decide)⟩
/-- The unit of field `f`, component `d`. -/
def unitOf (f : Fin 26) (d : Fin 36) : Fin 936 := ⟨36 * f.val + d.val, by omega⟩

@[simp] theorem fieldOf_unitOf (f : Fin 26) (d : Fin 36) : fieldOf (unitOf f d) = f := by
  apply Fin.ext; simp only [fieldOf, unitOf]; omega
@[simp] theorem compOf_unitOf (f : Fin 26) (d : Fin 36) : compOf (unitOf f d) = d := by
  apply Fin.ext; simp only [compOf, unitOf]; omega
theorem unitOf_fieldOf_compOf (u : Fin 936) : unitOf (fieldOf u) (compOf u) = u := by
  apply Fin.ext; simp only [fieldOf, compOf, unitOf]; omega

/-- The table row an index word selects. Total: a word outside `[0, 100000)` is reduced modulo 100000; under the
    precondition every index word is in range and the reduction is the identity. -/
def rowIx (w : BitVec 32) : Fin 100000 := ⟨w.toNat % 100000, Nat.mod_lt _ (by decide)⟩

theorem rowIx_val_of_lt {w : BitVec 32} (h : w.toNat < 100000) : (rowIx w).val = w.toNat := Nat.mod_eq_of_lt h

/-! ## The result, in the kernel's transposed layout and in the reference's -/

variable {α : Type}

/-- The kernel's output array, 936 by 16384, from the transposed index array (26 by 16384) and the transposed tables
    (36 by 100000 each): row `u`, column `b` is entry `(u % 36, xT (u / 36, b))` of transposed table `u / 36`. -/
def outT (xT : (⟨2, ![26, 16384]⟩ : Shape).Idx → BitVec 32) (tT : Fin 26 → (⟨2, ![36, 100000]⟩ : Shape).Idx → α) :
    (⟨2, ![936, 16384]⟩ : Shape).Idx → α :=
  fun j => tT (fieldOf (j 0)) (ix2 (compOf (j 0)) (rowIx (xT (ix2 (fieldOf (j 0)) (j 1)))))

/-- The result in the reference's layout, 16384 by 936, from the index array (16384 by 26) and the tables (100000 by 36
    each): row `b`, column `u` is entry `(x (b, u / 36), u % 36)` of table `u / 36`. -/
def out (x : (⟨2, ![16384, 26]⟩ : Shape).Idx → BitVec 32) (t : Fin 26 → (⟨2, ![100000, 36]⟩ : Shape).Idx → α) :
    (⟨2, ![16384, 936]⟩ : Shape).Idx → α :=
  fun j => t (fieldOf (j 1)) (ix2 (rowIx (x (ix2 (j 0) (fieldOf (j 1))))) (compOf (j 1)))

theorem outT_apply (xT : (⟨2, ![26, 16384]⟩ : Shape).Idx → BitVec 32) (tT : Fin 26 → (⟨2, ![36, 100000]⟩ : Shape).Idx → α)
    (u : Fin 936) (b : Fin 16384) :
    outT xT tT (ix2 u b) = tT (fieldOf u) (ix2 (compOf u) (rowIx (xT (ix2 (fieldOf u) b)))) := rfl

theorem out_apply (x : (⟨2, ![16384, 26]⟩ : Shape).Idx → BitVec 32) (t : Fin 26 → (⟨2, ![100000, 36]⟩ : Shape).Idx → α)
    (b : Fin 16384) (u : Fin 936) :
    out x t (ix2 b u) = t (fieldOf u) (ix2 (rowIx (x (ix2 b (fieldOf u)))) (compOf u)) := rfl

/-- The two layouts agree: the reference-layout result is the transpose of the kernel-layout result of the transposed
    arguments, entry by entry. -/
theorem out_eq_outT_swap (x : (⟨2, ![16384, 26]⟩ : Shape).Idx → BitVec 32) (t : Fin 26 → (⟨2, ![100000, 36]⟩ : Shape).Idx → α)
    (b : Fin 16384) (u : Fin 936) :
    out x t (ix2 b u) = outT (fun j => x (ix2 (j 1) (j 0))) (fun f j => t f (ix2 (j 1) (j 0))) (ix2 u b) := rfl

end Cert.Spec
-- ==== Proof.Common.lean ====
/-
  The launch of the embedding-lookup kernel: the program as the launch theorem sees it, the ghost state, the arrays
  and scratch buffers under short names, the tile coordinates, and what the handshakes carry.

  The 27 transposed input arrays main_v0 … main_v26 are read-only for the call: every tile holds a read share of each,
  WHOLE, at the value the host transposes left there. The output array main_v27 (936 rows by 16384 columns) is dealt by
  rows: tile w = 2 s + c (subcore s of SparseCore c) owns rows [lo w, hi w) outright and leaves them at the
  specification's value.
-/
import proofs.«204037_g66941360275737_cont_sun_c4_657_24_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204037_g66941360275737_cont_sun_c4_657_24_alg».proof.Proof.Gen.KernelIdeal

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents tcRefs)
open Idealize.ShloMosaic.Transfers (shareTokN shareDrop shareTok)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

/-- The index array and the 26 tables, transposed (the call's inputs), and the call's output, as device buffers. -/
abbrev x' : DevRef τ sig := Proc.devRef .tc (main_v0 : Ref sig .tc)
abbrev t1' : DevRef τ sig := Proc.devRef .tc (main_v1 : Ref sig .tc)
abbrev t2' : DevRef τ sig := Proc.devRef .tc (main_v2 : Ref sig .tc)
abbrev t3' : DevRef τ sig := Proc.devRef .tc (main_v3 : Ref sig .tc)
abbrev t4' : DevRef τ sig := Proc.devRef .tc (main_v4 : Ref sig .tc)
abbrev t5' : DevRef τ sig := Proc.devRef .tc (main_v5 : Ref sig .tc)
abbrev t6' : DevRef τ sig := Proc.devRef .tc (main_v6 : Ref sig .tc)
abbrev t7' : DevRef τ sig := Proc.devRef .tc (main_v7 : Ref sig .tc)
abbrev t8' : DevRef τ sig := Proc.devRef .tc (main_v8 : Ref sig .tc)
abbrev t9' : DevRef τ sig := Proc.devRef .tc (main_v9 : Ref sig .tc)
abbrev t10' : DevRef τ sig := Proc.devRef .tc (main_v10 : Ref sig .tc)
abbrev t11' : DevRef τ sig := Proc.devRef .tc (main_v11 : Ref sig .tc)
abbrev t12' : DevRef τ sig := Proc.devRef .tc (main_v12 : Ref sig .tc)
abbrev t13' : DevRef τ sig := Proc.devRef .tc (main_v13 : Ref sig .tc)
abbrev t14' : DevRef τ sig := Proc.devRef .tc (main_v14 : Ref sig .tc)
abbrev t15' : DevRef τ sig := Proc.devRef .tc (main_v15 : Ref sig .tc)
abbrev t16' : DevRef τ sig := Proc.devRef .tc (main_v16 : Ref sig .tc)
abbrev t17' : DevRef τ sig := Proc.devRef .tc (main_v17 : Ref sig .tc)
abbrev t18' : DevRef τ sig := Proc.devRef .tc (main_v18 : Ref sig .tc)
abbrev t19' : DevRef τ sig := Proc.devRef .tc (main_v19 : Ref sig .tc)
abbrev t20' : DevRef τ sig := Proc.devRef .tc (main_v20 : Ref sig .tc)
abbrev t21' : DevRef τ sig := Proc.devRef .tc (main_v21 : Ref sig .tc)
abbrev t22' : DevRef τ sig := Proc.devRef .tc (main_v22 : Ref sig .tc)
abbrev t23' : DevRef τ sig := Proc.devRef .tc (main_v23 : Ref sig .tc)
abbrev t24' : DevRef τ sig := Proc.devRef .tc (main_v24 : Ref sig .tc)
abbrev t25' : DevRef τ sig := Proc.devRef .tc (main_v25 : Ref sig .tc)
abbrev t26' : DevRef τ sig := Proc.devRef .tc (main_v26 : Ref sig .tc)
abbrev o' : DevRef τ sig := Proc.devRef .tc (main_v27 : Ref sig .tc)
abbrev r' : DevRef τ sig := Proc.devRef .tc (main_v28 : Ref sig .tc)

/-- The 27 input arrays of the call. -/
abbrev tabs : Finset (DevRef τ sig) := {x', t1', t2', t3', t4', t5', t6', t7', t8', t9', t10', t11', t12', t13', t14', t15', t16', t17', t18', t19', t20', t21', t22', t23', t24', t25', t26'}

/-- The same as locations of device `d`. -/
abbrev xLoc (d : Dev nD) : Loc nD τ sig := (SparseCore.T d).loc main_v0
abbrev tLoc1 (d : Dev nD) : Loc nD τ sig := (SparseCore.T d).loc main_v1
abbrev tLoc2 (d : Dev nD) : Loc nD τ sig := (SparseCore.T d).loc main_v2
abbrev tLoc3 (d : Dev nD) : Loc nD τ sig := (SparseCore.T d).loc main_v3
abbrev tLoc4 (d : Dev nD) : Loc nD τ sig := (SparseCore.T d).loc main_v4
abbrev tLoc5 (d : Dev nD) : Loc nD τ sig := (SparseCore.T d).loc main_v5
abbrev tLoc6 (d : Dev nD) : Loc nD τ sig := (SparseCore.T d).loc main_v6
abbrev tLoc7 (d : Dev nD) : Loc nD τ sig := (SparseCore.T d).loc main_v7
abbrev tLoc8 (d : Dev nD) : Loc nD τ sig := (SparseCore.T d).loc main_v8
abbrev tLoc9 (d : Dev nD) : Loc nD τ sig := (SparseCore.T d).loc main_v9
abbrev tLoc10 (d : Dev nD) : Loc nD τ sig := (SparseCore.T d).loc main_v10
abbrev tLoc11 (d : Dev nD) : Loc nD τ sig := (SparseCore.T d).loc main_v11
abbrev tLoc12 (d : Dev nD) : Loc nD τ sig := (SparseCore.T d).loc main_v12
abbrev tLoc13 (d : Dev nD) : Loc nD τ sig := (SparseCore.T d).loc main_v13
abbrev tLoc14 (d : Dev nD) : Loc nD τ sig := (SparseCore.T d).loc main_v14
abbrev tLoc15 (d : Dev nD) : Loc nD τ sig := (SparseCore.T d).loc main_v15
abbrev tLoc16 (d : Dev nD) : Loc nD τ sig := (SparseCore.T d).loc main_v16
abbrev tLoc17 (d : Dev nD) : Loc nD τ sig := (SparseCore.T d).loc main_v17
abbrev tLoc18 (d : Dev nD) : Loc nD τ sig := (SparseCore.T d).loc main_v18
abbrev tLoc19 (d : Dev nD) : Loc nD τ sig := (SparseCore.T d).loc main_v19
abbrev tLoc20 (d : Dev nD) : Loc nD τ sig := (SparseCore.T d).loc main_v20
abbrev tLoc21 (d : Dev nD) : Loc nD τ sig := (SparseCore.T d).loc main_v21
abbrev tLoc22 (d : Dev nD) : Loc nD τ sig := (SparseCore.T d).loc main_v22
abbrev tLoc23 (d : Dev nD) : Loc nD τ sig := (SparseCore.T d).loc main_v23
abbrev tLoc24 (d : Dev nD) : Loc nD τ sig := (SparseCore.T d).loc main_v24
abbrev tLoc25 (d : Dev nD) : Loc nD τ sig := (SparseCore.T d).loc main_v25
abbrev tLoc26 (d : Dev nD) : Loc nD τ sig := (SparseCore.T d).loc main_v26
abbrev oLoc (d : Dev nD) : Loc nD τ sig := (SparseCore.T d).loc main_v27
abbrev rLoc (d : Dev nD) : Loc nD τ sig := (SparseCore.T d).loc main_v28

/-- The arrays as the kernel's body table passes them to a tile. -/
abbrev xV : Memref sig .scVector .hbm S26x16384 .i32 := Memref.whole main_v0_scv
abbrev tV1 : Memref sig .scVector .hbm S36x100000 .f32 := Memref.whole main_v1_scv
abbrev tV2 : Memref sig .scVector .hbm S36x100000 .f32 := Memref.whole main_v2_scv
abbrev tV3 : Memref sig .scVector .hbm S36x100000 .f32 := Memref.whole main_v3_scv
abbrev tV4 : Memref sig .scVector .hbm S36x100000 .f32 := Memref.whole main_v4_scv
abbrev tV5 : Memref sig .scVector .hbm S36x100000 .f32 := Memref.whole main_v5_scv
abbrev tV6 : Memref sig .scVector .hbm S36x100000 .f32 := Memref.whole main_v6_scv
abbrev tV7 : Memref sig .scVector .hbm S36x100000 .f32 := Memref.whole main_v7_scv
abbrev tV8 : Memref sig .scVector .hbm S36x100000 .f32 := Memref.whole main_v8_scv
abbrev tV9 : Memref sig .scVector .hbm S36x100000 .f32 := Memref.whole main_v9_scv
abbrev tV10 : Memref sig .scVector .hbm S36x100000 .f32 := Memref.whole main_v10_scv
abbrev tV11 : Memref sig .scVector .hbm S36x100000 .f32 := Memref.whole main_v11_scv
abbrev tV12 : Memref sig .scVector .hbm S36x100000 .f32 := Memref.whole main_v12_scv
abbrev tV13 : Memref sig .scVector .hbm S36x100000 .f32 := Memref.whole main_v13_scv
abbrev tV14 : Memref sig .scVector .hbm S36x100000 .f32 := Memref.whole main_v14_scv
abbrev tV15 : Memref sig .scVector .hbm S36x100000 .f32 := Memref.whole main_v15_scv
abbrev tV16 : Memref sig .scVector .hbm S36x100000 .f32 := Memref.whole main_v16_scv
abbrev tV17 : Memref sig .scVector .hbm S36x100000 .f32 := Memref.whole main_v17_scv
abbrev tV18 : Memref sig .scVector .hbm S36x100000 .f32 := Memref.whole main_v18_scv
abbrev tV19 : Memref sig .scVector .hbm S36x100000 .f32 := Memref.whole main_v19_scv
abbrev tV20 : Memref sig .scVector .hbm S36x100000 .f32 := Memref.whole main_v20_scv
abbrev tV21 : Memref sig .scVector .hbm S36x100000 .f32 := Memref.whole main_v21_scv
abbrev tV22 : Memref sig .scVector .hbm S36x100000 .f32 := Memref.whole main_v22_scv
abbrev tV23 : Memref sig .scVector .hbm S36x100000 .f32 := Memref.whole main_v23_scv
abbrev tV24 : Memref sig .scVector .hbm S36x100000 .f32 := Memref.whole main_v24_scv
abbrev tV25 : Memref sig .scVector .hbm S36x100000 .f32 := Memref.whole main_v25_scv
abbrev tV26 : Memref sig .scVector .hbm S36x100000 .f32 := Memref.whole main_v26_scv
abbrev oV : Memref sig .scVector .hbm S936x16384 .f32 := Memref.whole main_v27_scv
/-- A tile's scratch: one table row, the two halves of an index row, one half of an output row. -/
abbrev sRow : Memref sig .scVector .vmem S100000 .f32 := Memref.whole cc0_scratch0
abbrev sIa : Memref sig .scVector .vmem S8192 .i32 := Memref.whole cc0_scratch1
abbrev sIb : Memref sig .scVector .vmem S8192 .i32 := Memref.whole cc0_scratch2
abbrev sOch : Memref sig .scVector .vmem S8192 .f32 := Memref.whole cc0_scratch3

/-! ## The tile coordinates and the tiles -/

abbrev cV (L : grid0.Coords) : Fin τ.nSC := (L 0).castLE hcore0
abbrev jV (L : grid0.Coords) : Fin τ.nSub := (L 1).castLE hsub0
/-- The grid point of subcore `s` of SparseCore `c`, as the body table passes it to the kernel's function. -/
def coordsV (c : Fin (grid0.bound 0)) (s : Fin (grid0.bound 1)) : grid0.Coords :=
  fun | 0 => c | 1 => s | ⟨_ + 2, h⟩ => absurd h (Nat.not_lt.2 (Nat.le_add_left _ _))

/-- The tile number of subcore `s` of SparseCore `c`: `2 s + c`, below 32. -/
def wid (c s : ℕ) : ℕ := s * 2 + c
theorem wid_lt {c s : ℕ} (hc : c < 2) (hs : s < 16) : wid c s < 32 := by unfold wid; omega
theorem wid_inj {c s c' s' : ℕ} (hc : c < 2) (hc' : c' < 2) (h : wid c s = wid c' s') : c = c' ∧ s = s' := by
  unfold wid at h; omega

/-- The read share of the input arrays that subcore `s` of SparseCore `c` holds: the whole halved per SparseCore,
    then per subcore. -/
def qT (c s : ℕ) : PosShare TreeShare := shareTokN (shareTokN fullShare c) s

/-- The elements of the output array in rows `[lo w, hi w)`, every column: tile `w`'s. -/
def oRows (w : ℕ) : Finset S936x16384.Idx :=
  Finset.univ.filter fun j => Cert.Spec.lo w ≤ (j 0).val ∧ (j 0).val < Cert.Spec.hi w

theorem mem_oRows {w : ℕ} {j : S936x16384.Idx} : j ∈ oRows w ↔ Cert.Spec.lo w ≤ (j 0).val ∧ (j 0).val < Cert.Spec.hi w := by
  unfold oRows; rw [Finset.mem_filter]; exact ⟨fun h => h.2, fun h => ⟨Finset.mem_univ _, h⟩⟩

/-! ## The host operations and the values they leave -/

variable (m : (ℓ : Loc nD τ sig) → Buf (Elt F) ℓ) (ρ : Dev nD → PrngReg)
variable [FloatOps F]

/-- The 27 transposes before the call, in program order; the transpose after it. -/
abbrev opT0 : HloOp τ sig (Elt F) := StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev opT1 : HloOp τ sig (Elt F) := StableHlo.unary main_arg1 main_v1 ((transpose S36x100000 [1, 0] · transposes_S100000x36_S36x100000_1_0) : (⟨S100000x36, .f32⟩ : BufTy).Contents (Elt F) → (⟨S36x100000, .f32⟩ : BufTy).Contents (Elt F))
abbrev opT2 : HloOp τ sig (Elt F) := StableHlo.unary main_arg2 main_v2 ((transpose S36x100000 [1, 0] · transposes_S100000x36_S36x100000_1_0) : (⟨S100000x36, .f32⟩ : BufTy).Contents (Elt F) → (⟨S36x100000, .f32⟩ : BufTy).Contents (Elt F))
abbrev opT3 : HloOp τ sig (Elt F) := StableHlo.unary main_arg3 main_v3 ((transpose S36x100000 [1, 0] · transposes_S100000x36_S36x100000_1_0) : (⟨S100000x36, .f32⟩ : BufTy).Contents (Elt F) → (⟨S36x100000, .f32⟩ : BufTy).Contents (Elt F))
abbrev opT4 : HloOp τ sig (Elt F) := StableHlo.unary main_arg4 main_v4 ((transpose S36x100000 [1, 0] · transposes_S100000x36_S36x100000_1_0) : (⟨S100000x36, .f32⟩ : BufTy).Contents (Elt F) → (⟨S36x100000, .f32⟩ : BufTy).Contents (Elt F))
abbrev opT5 : HloOp τ sig (Elt F) := StableHlo.unary main_arg5 main_v5 ((transpose S36x100000 [1, 0] · transposes_S100000x36_S36x100000_1_0) : (⟨S100000x36, .f32⟩ : BufTy).Contents (Elt F) → (⟨S36x100000, .f32⟩ : BufTy).Contents (Elt F))
abbrev opT6 : HloOp τ sig (Elt F) := StableHlo.unary main_arg6 main_v6 ((transpose S36x100000 [1, 0] · transposes_S100000x36_S36x100000_1_0) : (⟨S100000x36, .f32⟩ : BufTy).Contents (Elt F) → (⟨S36x100000, .f32⟩ : BufTy).Contents (Elt F))
abbrev opT7 : HloOp τ sig (Elt F) := StableHlo.unary main_arg7 main_v7 ((transpose S36x100000 [1, 0] · transposes_S100000x36_S36x100000_1_0) : (⟨S100000x36, .f32⟩ : BufTy).Contents (Elt F) → (⟨S36x100000, .f32⟩ : BufTy).Contents (Elt F))
abbrev opT8 : HloOp τ sig (Elt F) := StableHlo.unary main_arg8 main_v8 ((transpose S36x100000 [1, 0] · transposes_S100000x36_S36x100000_1_0) : (⟨S100000x36, .f32⟩ : BufTy).Contents (Elt F) → (⟨S36x100000, .f32⟩ : BufTy).Contents (Elt F))
abbrev opT9 : HloOp τ sig (Elt F) := StableHlo.unary main_arg9 main_v9 ((transpose S36x100000 [1, 0] · transposes_S100000x36_S36x100000_1_0) : (⟨S100000x36, .f32⟩ : BufTy).Contents (Elt F) → (⟨S36x100000, .f32⟩ : BufTy).Contents (Elt F))
abbrev opT10 : HloOp τ sig (Elt F) := StableHlo.unary main_arg10 main_v10 ((transpose S36x100000 [1, 0] · transposes_S100000x36_S36x100000_1_0) : (⟨S100000x36, .f32⟩ : BufTy).Contents (Elt F) → (⟨S36x100000, .f32⟩ : BufTy).Contents (Elt F))
abbrev opT11 : HloOp τ sig (Elt F) := StableHlo.unary main_arg11 main_v11 ((transpose S36x100000 [1, 0] · transposes_S100000x36_S36x100000_1_0) : (⟨S100000x36, .f32⟩ : BufTy).Contents (Elt F) → (⟨S36x100000, .f32⟩ : BufTy).Contents (Elt F))
abbrev opT12 : HloOp τ sig (Elt F) := StableHlo.unary main_arg12 main_v12 ((transpose S36x100000 [1, 0] · transposes_S100000x36_S36x100000_1_0) : (⟨S100000x36, .f32⟩ : BufTy).Contents (Elt F) → (⟨S36x100000, .f32⟩ : BufTy).Contents (Elt F))
abbrev opT13 : HloOp τ sig (Elt F) := StableHlo.unary main_arg13 main_v13 ((transpose S36x100000 [1, 0] · transposes_S100000x36_S36x100000_1_0) : (⟨S100000x36, .f32⟩ : BufTy).Contents (Elt F) → (⟨S36x100000, .f32⟩ : BufTy).Contents (Elt F))
abbrev opT14 : HloOp τ sig (Elt F) := StableHlo.unary main_arg14 main_v14 ((transpose S36x100000 [1, 0] · transposes_S100000x36_S36x100000_1_0) : (⟨S100000x36, .f32⟩ : BufTy).Contents (Elt F) → (⟨S36x100000, .f32⟩ : BufTy).Contents (Elt F))
abbrev opT15 : HloOp τ sig (Elt F) := StableHlo.unary main_arg15 main_v15 ((transpose S36x100000 [1, 0] · transposes_S100000x36_S36x100000_1_0) : (⟨S100000x36, .f32⟩ : BufTy).Contents (Elt F) → (⟨S36x100000, .f32⟩ : BufTy).Contents (Elt F))
abbrev opT16 : HloOp τ sig (Elt F) := StableHlo.unary main_arg16 main_v16 ((transpose S36x100000 [1, 0] · transposes_S100000x36_S36x100000_1_0) : (⟨S100000x36, .f32⟩ : BufTy).Contents (Elt F) → (⟨S36x100000, .f32⟩ : BufTy).Contents (Elt F))
abbrev opT17 : HloOp τ sig (Elt F) := StableHlo.unary main_arg17 main_v17 ((transpose S36x100000 [1, 0] · transposes_S100000x36_S36x100000_1_0) : (⟨S100000x36, .f32⟩ : BufTy).Contents (Elt F) → (⟨S36x100000, .f32⟩ : BufTy).Contents (Elt F))
abbrev opT18 : HloOp τ sig (Elt F) := StableHlo.unary main_arg18 main_v18 ((transpose S36x100000 [1, 0] · transposes_S100000x36_S36x100000_1_0) : (⟨S100000x36, .f32⟩ : BufTy).Contents (Elt F) → (⟨S36x100000, .f32⟩ : BufTy).Contents (Elt F))
abbrev opT19 : HloOp τ sig (Elt F) := StableHlo.unary main_arg19 main_v19 ((transpose S36x100000 [1, 0] · transposes_S100000x36_S36x100000_1_0) : (⟨S100000x36, .f32⟩ : BufTy).Contents (Elt F) → (⟨S36x100000, .f32⟩ : BufTy).Contents (Elt F))
abbrev opT20 : HloOp τ sig (Elt F) := StableHlo.unary main_arg20 main_v20 ((transpose S36x100000 [1, 0] · transposes_S100000x36_S36x100000_1_0) : (⟨S100000x36, .f32⟩ : BufTy).Contents (Elt F) → (⟨S36x100000, .f32⟩ : BufTy).Contents (Elt F))
abbrev opT21 : HloOp τ sig (Elt F) := StableHlo.unary main_arg21 main_v21 ((transpose S36x100000 [1, 0] · transposes_S100000x36_S36x100000_1_0) : (⟨S100000x36, .f32⟩ : BufTy).Contents (Elt F) → (⟨S36x100000, .f32⟩ : BufTy).Contents (Elt F))
abbrev opT22 : HloOp τ sig (Elt F) := StableHlo.unary main_arg22 main_v22 ((transpose S36x100000 [1, 0] · transposes_S100000x36_S36x100000_1_0) : (⟨S100000x36, .f32⟩ : BufTy).Contents (Elt F) → (⟨S36x100000, .f32⟩ : BufTy).Contents (Elt F))
abbrev opT23 : HloOp τ sig (Elt F) := StableHlo.unary main_arg23 main_v23 ((transpose S36x100000 [1, 0] · transposes_S100000x36_S36x100000_1_0) : (⟨S100000x36, .f32⟩ : BufTy).Contents (Elt F) → (⟨S36x100000, .f32⟩ : BufTy).Contents (Elt F))
abbrev opT24 : HloOp τ sig (Elt F) := StableHlo.unary main_arg24 main_v24 ((transpose S36x100000 [1, 0] · transposes_S100000x36_S36x100000_1_0) : (⟨S100000x36, .f32⟩ : BufTy).Contents (Elt F) → (⟨S36x100000, .f32⟩ : BufTy).Contents (Elt F))
abbrev opT25 : HloOp τ sig (Elt F) := StableHlo.unary main_arg25 main_v25 ((transpose S36x100000 [1, 0] · transposes_S100000x36_S36x100000_1_0) : (⟨S100000x36, .f32⟩ : BufTy).Contents (Elt F) → (⟨S36x100000, .f32⟩ : BufTy).Contents (Elt F))
abbrev opT26 : HloOp τ sig (Elt F) := StableHlo.unary main_arg26 main_v26 ((transpose S36x100000 [1, 0] · transposes_S100000x36_S36x100000_1_0) : (⟨S100000x36, .f32⟩ : BufTy).Contents (Elt F) → (⟨S36x100000, .f32⟩ : BufTy).Contents (Elt F))
abbrev opR : HloOp τ sig (Elt F) := StableHlo.unary main_v27 main_v28 ((transpose S16384x936 [1, 0] · transposes_S936x16384_S16384x936_1_0) : (⟨S936x16384, .f32⟩ : BufTy).Contents (Elt F) → (⟨S16384x936, .f32⟩ : BufTy).Contents (Elt F))
abbrev opsIn : List (HloOp τ sig (Elt F)) := [opT0, opT1, opT2, opT3, opT4, opT5, opT6, opT7, opT8, opT9, opT10, opT11, opT12, opT13, opT14, opT15, opT16, opT17, opT18, opT19, opT20, opT21, opT22, opT23, opT24, opT25, opT26]

/-- What device `d`'s arrays hold when the call starts: the launch contents, the 27 transposes done. -/
def Vin (d : Dev nD) : Valuation τ sig (Elt F) := after (opsIn (F := F)) (launchContents m d)

/-- The transposed index array and the transposed tables at the call, as the specification's functions take them. -/
def xT (d : Dev nD) : S26x16384.Idx → BitVec 32 := Vin m d x'
def tT (d : Dev nD) : Fin 26 → S36x100000.Idx → Elt F .f32
  | ⟨0, _⟩ => Vin m d t1'
  | ⟨1, _⟩ => Vin m d t2'
  | ⟨2, _⟩ => Vin m d t3'
  | ⟨3, _⟩ => Vin m d t4'
  | ⟨4, _⟩ => Vin m d t5'
  | ⟨5, _⟩ => Vin m d t6'
  | ⟨6, _⟩ => Vin m d t7'
  | ⟨7, _⟩ => Vin m d t8'
  | ⟨8, _⟩ => Vin m d t9'
  | ⟨9, _⟩ => Vin m d t10'
  | ⟨10, _⟩ => Vin m d t11'
  | ⟨11, _⟩ => Vin m d t12'
  | ⟨12, _⟩ => Vin m d t13'
  | ⟨13, _⟩ => Vin m d t14'
  | ⟨14, _⟩ => Vin m d t15'
  | ⟨15, _⟩ => Vin m d t16'
  | ⟨16, _⟩ => Vin m d t17'
  | ⟨17, _⟩ => Vin m d t18'
  | ⟨18, _⟩ => Vin m d t19'
  | ⟨19, _⟩ => Vin m d t20'
  | ⟨20, _⟩ => Vin m d t21'
  | ⟨21, _⟩ => Vin m d t22'
  | ⟨22, _⟩ => Vin m d t23'
  | ⟨23, _⟩ => Vin m d t24'
  | ⟨24, _⟩ => Vin m d t25'
  | ⟨25, _⟩ => Vin m d t26'
  | ⟨_ + 26, h⟩ => absurd h (Nat.not_lt.2 (Nat.le_add_left _ _))

/-- What the call leaves in the output array: the specification's value of the inputs. -/
def outBuf (d : Dev nD) : Buf (Elt F) (oLoc d) := Cert.Spec.outT (xT m d) (tT m d)

/-! ## What the handshakes carry -/

/-- The input arrays, each whole at share `q`, at the values the call starts from. -/
def tabsAt (d : Dev nD) (q : PosShare TreeShare) : sProp 𝕄 := bigSep tabs fun b => ((d, b) : Loc nD τ sig) ↦{q} Vin m d b
/-- Tile `w`'s rows of the output array, at contents `f`. -/
abbrev oRowsPts (d : Dev nD) (w : ℕ) (f : Buf (Elt F) (oLoc d)) : sProp 𝕄 := oLoc d ↦[oRows w]{fullShare} f

/-- A tile's task: its read shares of the inputs and its rows of the output, at the launch contents; -/
def goT (d : Dev nD) (c s : ℕ) : sProp 𝕄 := iprop(tabsAt m d (qT c s) ∗ oRowsPts d (wid c s) (m (oLoc d)))
/-- its result: the shares back and its rows at the specification's value. -/
def tdT (d : Dev nD) (c s : ℕ) : sProp 𝕄 := iprop(tabsAt m d (qT c s) ∗ oRowsPts d (wid c s) (outBuf m d))

/-- The one call hands each SparseCore its 16 tiles' tasks and takes back their results. -/
def P : (K (F := F)).Pay (nD := nD) (Val := Elt F) (Name := ℕ) (U := UU) where
  st := fun _ d c => bigSep Finset.univ fun i : Fin 16 => goT m d c.val i.val
  dn := fun _ d c => bigSep Finset.univ fun i : Fin 16 => tdT m d c.val i.val
  go := fun _ d c i => goT m d c.val i.val
  td := fun _ d c i => tdT m d c.val i.val
  x := fun _ _ => iprop(emp)

theorem P_st (q : Fin 1) (d : Dev nD) (c : Fin ((K (F := F)).nCore q)) :
    (P m).st q d c = bigSep Finset.univ fun i : Fin 16 => goT m d c.val i.val := rfl
theorem P_dn (q : Fin 1) (d : Dev nD) (c : Fin ((K (F := F)).nCore q)) :
    (P m).dn q d c = bigSep Finset.univ fun i : Fin 16 => tdT m d c.val i.val := rfl
theorem P_go (q : Fin 1) (d : Dev nD) (c : Fin ((K (F := F)).nCore q)) (i : Fin ((K (F := F)).nSub q)) :
    (P m).go q d c i = goT m d c.val i.val := rfl
theorem P_td (q : Fin 1) (d : Dev nD) (c : Fin ((K (F := F)).nCore q)) (i : Fin ((K (F := F)).nSub q)) :
    (P m).td q d c i = tdT m d c.val i.val := rfl
theorem P_x (q : Fin 1) (thr : Thread nD τ) : (P m).x q thr = iprop(emp) := rfl

instance goT_storable (d : Dev nD) (c s : ℕ) : BI.Storable (upEmb : UEmb _ 𝕄) (goT m d c s) := by
  unfold goT tabsAt; infer_instance
instance tdT_storable (d : Dev nD) (c s : ℕ) : BI.Storable (upEmb : UEmb _ 𝕄) (tdT m d c s) := by
  unfold tdT tabsAt; infer_instance

instance P_storable : (P (F := F) m).IsStorable where
  st _ d c := by rw [P_st]; infer_instance
  dn _ d c := by rw [P_dn]; infer_instance
  go _ d c i := by rw [P_go]; infer_instance
  td _ d c i := by rw [P_td]; infer_instance

/-- The input arrays' family, one hypothesis per array. -/
theorem tabs_expand (Φ : DevRef τ sig → sProp 𝕄) :
    bigSep tabs Φ = iprop(Φ x' ∗ Φ t1' ∗ Φ t2' ∗ Φ t3' ∗ Φ t4' ∗ Φ t5' ∗ Φ t6' ∗ Φ t7' ∗ Φ t8' ∗ Φ t9' ∗ Φ t10' ∗ Φ t11' ∗ Φ t12' ∗ Φ t13' ∗ Φ t14' ∗ Φ t15' ∗ Φ t16' ∗ Φ t17' ∗ Φ t18' ∗ Φ t19' ∗ Φ t20' ∗ Φ t21' ∗ Φ t22' ∗ Φ t23' ∗ Φ t24' ∗ Φ t25' ∗ Φ t26') := by
  unfold tabs
  repeat rw [SparseCore.bigSep_insert' (by decide)]
  rw [bigSep_singleton]

omit [FloatOps F] in
/-- What the proof asks of the launch memory: every index word names a table row. -/
def PreOK : Prop := ∀ (d : Dev nD) (j : S16384x26.Idx), (m ((SparseCore.T d).loc main_arg0) j).toNat < 100000

end Cert.Proof.KernelIdeal

end
-- ==== Proof.Launch.lean ====
/-
  The launch of the embedding-lookup kernel: the launch theorem applied to the program, over a hypothesis for the
  tile's task.

  The split of a SparseCore's operands among its 16 tiles is the identity (the call hands each SparseCore its tiles'
  tasks). The launch element is the handshakes' alone: the kernel's transfers are local copies, each waited for on its
  own semaphore, and need no schedule. On the TensorCore: the 27 transposes, the call — the 27 transposed arrays split
  into 32 read shares each (halved per SparseCore, then per tile), the output array split by rows among the 32 tiles,
  both joined again when the call returns —, the last transpose. The run's post names every array of the device at the
  end: the arguments unchanged, the result the transpose of the specification's value of the transposed arguments.
-/
import proofs.«204037_g66941360275737_cont_sun_c4_657_24_alg».proof.Proof.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq seq after launchContents tcRefs devRef_mem_tcRefs unary_bufs_sub)
open Idealize.ShloMosaic.Transfers (shareTokN shareDrop shareTok pointsTo_toks)
open Idealize.ShloMosaic.Tactic

variable {F : FTy → Type}

local notation "𝕄" => MT nD τ sig (HIx 1) (Elt F) ℕ UU ℕ

/-! ## Families over two index sets -/

omit F in
theorem bigSep_swap {M : Type} [URA M] {I J : Type} [DecidableEq I] (s : Finset I) (t : Finset J) (Φ : I → J → sProp M) :
    bigSep s (fun b => bigSep t fun c => Φ b c) = bigSep t fun c => bigSep s fun b => Φ b c := by
  induction s using Finset.induction_on with
  | empty => simp only [bigSep_empty, bigSep_emp_const]
  | insert a s ha ih => simp only [bigSep_insert ha, ih, bigSep_sep]

variable (m : (ℓ : Loc nD τ sig) → Buf (Elt F) ℓ) (ρ : Dev nD → PrngReg)
variable [FloatOps F]

/-! ## The split of a SparseCore's operands among its tiles -/

theorem vecSplit : (K (F := F)).VecSplit' (P m) 0 := by
  intro d c
  show (bigSep Finset.univ fun i : Fin 16 => goT m d c.val i.val) ⊢ |={Set.univ}=> iprop(
      (bigSep Finset.univ fun i : Fin 16 => goT m d c.val i.val)
      ∗ ((bigSep Finset.univ fun i : Fin 16 => tdT m d c.val i.val) -∗ bigSep Finset.univ fun i : Fin 16 => tdT m d c.val i.val))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Read shares of an array, 32 of them: halved per SparseCore, then per tile -/

omit [FloatOps F] in
theorem toks_eq {ℓ : Loc nD τ sig} (f : Buf (Elt F) ℓ) (q : PosShare TreeShare) (n : ℕ) :
    (ℓ ↦{q} f : sProp 𝕄) = iprop((ℓ ↦{shareDrop q n} f) ∗ bigSep Finset.univ fun i : Fin n => ℓ ↦{shareTok q n i} f) :=
  BI.equiv_iff.mp ⟨(pointsTo_toks q n).1, (pointsTo_toks q n).2⟩

omit [FloatOps F] in
theorem share_split {ℓ : Loc nD τ sig} (f : Buf (Elt F) ℓ) :
    (ℓ ↦{fullShare} f : sProp 𝕄)
      = iprop((ℓ ↦{shareDrop fullShare 2} f) ∗ (bigSep Finset.univ fun c : Fin 2 => ℓ ↦{shareDrop (shareTokN fullShare c.val) 16} f)
          ∗ bigSep Finset.univ fun c : Fin 2 => bigSep Finset.univ fun i : Fin 16 => ℓ ↦{qT c.val i.val} f) := by
  have h2 : (bigSep Finset.univ fun c : Fin 2 => (ℓ ↦{shareTok fullShare 2 c} f : sProp 𝕄))
      = bigSep Finset.univ fun c : Fin 2 => iprop((ℓ ↦{shareDrop (shareTokN fullShare c.val) 16} f)
          ∗ bigSep Finset.univ fun i : Fin 16 => ℓ ↦{qT c.val i.val} f) :=
    bigSep_congr fun c _ => toks_eq f (shareTok fullShare 2 c) 16
  rw [toks_eq f fullShare 2, h2, bigSep_sep']

/-- The 27 input arrays, whole at the full share, are what is left over and the 32 tiles' shares. -/
theorem tabs_split (d : Dev nD) (W : Valuation τ sig (Elt F)) :
    (held (T d) tabs W : sProp 𝕄)
      = iprop((bigSep tabs fun b => ((d, b) : Loc nD τ sig) ↦{shareDrop fullShare 2} W b)
          ∗ (bigSep tabs fun b => bigSep Finset.univ fun c : Fin 2 => ((d, b) : Loc nD τ sig) ↦{shareDrop (shareTokN fullShare c.val) 16} W b)
          ∗ bigSep Finset.univ fun c : Fin 2 => bigSep Finset.univ fun i : Fin 16 =>
              bigSep tabs fun b => ((d, b) : Loc nD τ sig) ↦{qT c.val i.val} W b) := by
  unfold held
  rw [bigSep_congr fun b _ => share_split (F := F) (ℓ := ((d, b) : Loc nD τ sig)) (W b), bigSep_sep', bigSep_sep',
    bigSep_swap tabs Finset.univ fun b (c : Fin 2) => bigSep Finset.univ fun i : Fin 16 => (((d, b) : Loc nD τ sig) ↦{qT c.val i.val} W b : sProp 𝕄),
    bigSep_congr fun (c : Fin 2) _ => bigSep_swap tabs Finset.univ fun b (i : Fin 16) => (((d, b) : Loc nD τ sig) ↦{qT c.val i.val} W b : sProp 𝕄)]

/-! ## The output array, by the 32 tiles' rows -/

omit [FloatOps F] in
theorem oRows_disjoint : ∀ p ∈ (Finset.univ : Finset (Fin 2 × Fin 16)), ∀ p' ∈ (Finset.univ : Finset (Fin 2 × Fin 16)), p ≠ p' →
    Disjoint (oRows (wid p.1.val p.2.val)) (oRows (wid p'.1.val p'.2.val)) := by
  intro p _ p' _ hne
  refine Finset.disjoint_left.mpr fun j h1 h2 => hne ?_
  have e1 := Cert.Spec.owner_unique (mem_oRows.mp h1).1 (mem_oRows.mp h1).2
  have e2 := Cert.Spec.owner_unique (mem_oRows.mp h2).1 (mem_oRows.mp h2).2
  obtain ⟨hc, hs⟩ := wid_inj p.1.isLt p'.1.isLt (e1.trans e2.symm)
  exact Prod.ext (Fin.ext hc) (Fin.ext hs)

omit [FloatOps F] in
theorem oRows_cover : (Finset.univ : Finset (Fin 2 × Fin 16)).biUnion (fun p => oRows (wid p.1.val p.2.val)) = Finset.univ := by
  refine Finset.eq_univ_of_forall fun j => Finset.mem_biUnion.mpr ?_
  have hj : (j 0).val < 936 := (j 0).isLt
  have hw := Cert.Spec.owner_lt hj
  refine ⟨(⟨Cert.Spec.owner (j 0).val % 2, Nat.mod_lt _ (by decide)⟩, ⟨Cert.Spec.owner (j 0).val / 2, by omega⟩), Finset.mem_univ _, mem_oRows.mpr ?_⟩
  have e : wid (Cert.Spec.owner (j 0).val % 2) (Cert.Spec.owner (j 0).val / 2) = Cert.Spec.owner (j 0).val := by unfold wid; omega
  show Cert.Spec.lo (wid (Cert.Spec.owner (j 0).val % 2) (Cert.Spec.owner (j 0).val / 2)) ≤ _ ∧ _ < Cert.Spec.hi (wid (Cert.Spec.owner (j 0).val % 2) (Cert.Spec.owner (j 0).val / 2))
  rw [e]; exact ⟨Cert.Spec.lo_owner_le _, Cert.Spec.lt_hi_owner _⟩

omit [FloatOps F] in
/-- The output array whole is the 32 tiles' rows. -/
theorem o_split (d : Dev nD) (f : Buf (Elt F) (oLoc d)) :
    (oLoc d ↦{fullShare} f : sProp 𝕄)
      = bigSep Finset.univ fun c : Fin 2 => bigSep Finset.univ fun i : Fin 16 => oRowsPts d (wid c.val i.val) f := by
  rw [← bigSep_univ_prod (fun p : Fin 2 × Fin 16 => (oRowsPts d (wid p.1.val p.2.val) f : sProp 𝕄))]
  show _ = bigSep Finset.univ fun p : Fin 2 × Fin 16 => (oLoc d ↦[oRows (wid p.1.val p.2.val)]{fullShare} f : sProp 𝕄)
  rw [← pointsTo_biUnion Finset.univ (ℓ := oLoc d) (fun p : Fin 2 × Fin 16 => oRows (wid p.1.val p.2.val)) oRows_disjoint, oRows_cover]

/-! ## @main on the TensorCore -/

omit [FloatOps F] in
/-- The launch's arrays of the TensorCore, regrouped over all its references. -/
theorem unscoped_held (d : Dev nD) :
    (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ from
    Finset.filter_true_of_mem fun b _ => by revert b; decide, bigSep_map]
  rfl

/-- @main: the 27 transposes, the call, the last transpose. -/
theorem main_eq (d : Dev nD) :
    main (F := F) d = (seq (opsIn (F := F)) >>= fun _ => (K (F := F)).run d 0 >>= fun _ => hlo rfl (opR (F := F)) (fun _ => .ret (⟨⟩ : PUnit)) >>= fun _ => pure (⟨⟩ : PUnit)) := rfl

theorem opsIn_sub : ∀ op ∈ opsIn (F := F), op.bufs ⊆ tcRefs τ sig :=
  List.forall_iff_forall_mem.1 (by simp only [List.Forall, unary_bufs_sub, and_self])

theorem opsIn_fresh : ∀ op ∈ opsIn (F := F), op.fresh = ∅ := by
  intro _ h; (repeat (cases h with | head => rfl | tail _ h => ?_)); exact nomatch h

/-- The arrays the call takes. -/
abbrev inRefs : Finset (DevRef τ sig) := insert o' tabs

omit F in
theorem inRefs_sub : inRefs ⊆ tcRefs τ sig := by
  simp only [inRefs, tabs, Finset.insert_subset_iff, Finset.singleton_subset_iff]
  iterate 27 (refine ⟨devRef_mem_tcRefs _, ?_⟩)
  exact devRef_mem_tcRefs _

omit [FloatOps F] in
/-- All the TensorCore's arrays: the output array, the 27 inputs of the call, the rest. -/
theorem held_all_split (d : Dev nD) (W : Valuation τ sig (Elt F)) :
    (held (T d) (tcRefs τ sig) W : sProp 𝕄)
      = iprop(((oLoc d ↦{fullShare} W o') ∗ held (T d) tabs W) ∗ held (T d) (tcRefs τ sig \ inRefs) W) := by
  rw [held_sub_split (T d) inRefs_sub W]
  congr 1

/-- The output array is none of the 27 transposes' results: at the call it is as launched. -/
theorem Vin_o (d : Dev nD) : Vin m d o' = m (oLoc d) := by
  unfold Vin
  after_results_simp

/-- The arrays after the call: the output array at the specification's value; after the last transpose. -/
def Vcall (d : Dev nD) : Valuation τ sig (Elt F) := Function.update (Vin m d) o' (outBuf m d)
def Vout (d : Dev nD) : Valuation τ sig (Elt F) := (opR (F := F)).result (Vcall m d)

theorem held_call (d : Dev nD) :
    (held (T d) (tcRefs τ sig) (Vcall m d) : sProp 𝕄)
      = iprop(((oLoc d ↦{fullShare} outBuf m d) ∗ held (T d) tabs (Vin m d)) ∗ held (T d) (tcRefs τ sig \ inRefs) (Vin m d)) := by
  rw [held_all_split d (Vcall m d),
    held_congr (T d) (S := tabs) (V := Vcall m d) (V' := Vin m d) fun b hb =>
      Function.update_of_ne (fun e => by subst e; exact absurd hb (by decide)) _ _,
    held_congr (T d) (S := tcRefs τ sig \ inRefs) (V := Vcall m d) (V' := Vin m d) fun b hb =>
      Function.update_of_ne (fun e => by subst e; exact (Finset.mem_sdiff.mp hb).2 (Finset.mem_insert_self _ _)) _ _]
  unfold Vcall
  rw [Function.update_self]

theorem st0_eq (d : Dev nD) :
    (bigSep Finset.univ fun c : Fin ((K (F := F)).nCore 0) => (P m).st 0 d c)
      = iprop((bigSep Finset.univ fun c : Fin 2 => bigSep Finset.univ fun i : Fin 16 => tabsAt m d (qT c.val i.val))
          ∗ bigSep Finset.univ fun c : Fin 2 => bigSep Finset.univ fun i : Fin 16 => oRowsPts d (wid c.val i.val) (m (oLoc d))) := by
  show (bigSep Finset.univ fun c : Fin 2 => bigSep Finset.univ fun i : Fin 16 => goT m d c.val i.val) = _
  unfold goT
  rw [bigSep_congr fun (c : Fin 2) _ => bigSep_sep' Finset.univ (fun i : Fin 16 => tabsAt m d (qT c.val i.val)) (fun i : Fin 16 => (oRowsPts d (wid c.val i.val) (m (oLoc d)) : sProp 𝕄)),
    bigSep_sep']

theorem dn0_eq (d : Dev nD) :
    (bigSep Finset.univ fun c : Fin ((K (F := F)).nCore 0) => (P m).dn 0 d c)
      = iprop((bigSep Finset.univ fun c : Fin 2 => bigSep Finset.univ fun i : Fin 16 => tabsAt m d (qT c.val i.val))
          ∗ bigSep Finset.univ fun c : Fin 2 => bigSep Finset.univ fun i : Fin 16 => oRowsPts d (wid c.val i.val) (outBuf m d)) := by
  show (bigSep Finset.univ fun c : Fin 2 => bigSep Finset.univ fun i : Fin 16 => tdT m d c.val i.val) = _
  unfold tdT
  rw [bigSep_congr fun (c : Fin 2) _ => bigSep_sep' Finset.univ (fun i : Fin 16 => tabsAt m d (qT c.val i.val)) (fun i : Fin 16 => (oRowsPts d (wid c.val i.val) (outBuf m d) : sProp 𝕄)),
    bigSep_sep']

/-- What @main leaves the claim: every array of the TensorCore, at the values after the last transpose. -/
abbrev FIN (d : Dev nD) : sProp 𝕄 := held (T d) (tcRefs τ sig) (Vout m d)

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the 27 transposes
  iapply (wp_seq 𝒱 none Set.univ d (tcRefs τ sig) _ (opsIn (F := F)) opsIn_sub opsIn_fresh (launchContents m d)) $$ [Hb Hheld]
  · isplitl [Hb]; · iexact Hb
    iexact Hheld
  iintro ⟨Hb, Hheld⟩
  -- the call's arrays out of all: the inputs as 32 shares each, the output by the tiles' rows
  ihave Hheld := (Entails.of_eq (show (held (d.tc : Thread nD τ) (tcRefs τ sig) (after (opsIn (F := F)) (launchContents m d)) : sProp 𝕄)
      = held (T d) (tcRefs τ sig) (Vin m d) from rfl)) $$ Hheld
  ihave H := (Entails.of_eq (held_all_split (F := F) d (Vin m d))) $$ Hheld
  icases H with ⟨⟨Ho, Htabs⟩, Hrest⟩
  ihave Ht := (Entails.of_eq (tabs_split (F := F) d (Vin m d))) $$ Htabs
  icases Ht with ⟨HA, HB, HC⟩
  ihave Ho' := (Entails.of_eq ((congrArg (fun f => (oLoc d ↦{fullShare} f : sProp 𝕄)) (Vin_o m d)).trans (o_split (F := F) d (m (oLoc d))))) $$ Ho
  rw [wp_bind]
  iapply ((K (F := F)).wp_run (D (F := F)) 𝒱 (EH := EH) (P := P m) κ d 0) $$ [Hst HC Ho' HA HB Hrest Hb]
  isplitr; · iexact Hctx
  isplitl [Hst]; · iexact Hst
  isplitl [HC Ho']
  · rw [st0_eq]
    isplitl [HC]; · iexact HC
    iexact Ho'
  iintro ⟨Hst, Hdn⟩
  ihave Hdn' := (Entails.of_eq (dn0_eq m d)) $$ Hdn
  icases Hdn' with ⟨HC, Ho'⟩
  -- the shares and the rows joined again: every array, the output at the specification's value
  ihave Htabs := (Entails.of_eq (tabs_split (F := F) d (Vin m d)).symm) $$ [HA HB HC]
  · isplitl [HA]; · iexact HA
    isplitl [HB]; · iexact HB
    iexact HC
  ihave Ho := (Entails.of_eq (o_split (F := F) d (outBuf m d)).symm) $$ Ho'
  ihave Hheld := (Entails.of_eq (held_call m d).symm) $$ [Htabs Ho Hrest]
  · isplitl [Ho Htabs]
    · isplitl [Ho]; · iexact Ho
      iexact Htabs
    iexact Hrest
  -- the last transpose
  rw [wp_bind]
  iapply (wp_hlo_within 𝒱 (SparseCore.T d) none Set.univ (op := opR (F := F)) (S := tcRefs τ sig) (unary_bufs_sub _ _ _ _ _) (V := Vcall m d)) $$ [Hb Hheld]
  · isplitl [Hb]; · iexact Hb
    iexact Hheld
  iintro ⟨Hb, Hheld⟩
  rw [wp_ret]; imodintro
  rw [wp_pure]; imodintro
  isplitl [Hst]; · iexact Hst
  iexact Hheld

/-! ## The final memory -/

def fq (d : Dev nD) (s' : Phys nD τ sig (Elt F)) : Prop := ∀ b : Ref sig .tc, s'.mem.mem ((SparseCore.T d).loc b) = Vout m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-! ## The program's run -/

/-- Every array of every device at the end: the value after the last transpose. -/
def QC : PUnit × MemSt nD τ sig (Elt F) → Prop :=
  fun r => ∀ (d : Dev nD) (b : Ref sig .tc), r.2.mem ((SparseCore.T d).loc b) = Vout m d (Proc.devRef .tc b)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The values the run's post names -/

/-- The transposed index array at the call is the transpose of the argument. -/
theorem Vin_x (d : Dev nD) :
    Vin m d x' = transpose S26x16384 [1, 0] (m ((SparseCore.T d).loc main_arg0)) transposes_S16384x26_S26x16384_1_0 := by
  unfold Vin
  after_results_simp

/-- Under the range hypothesis every index word the tiles read names a table row. -/
theorem xT_lt (h : PreOK m) (d : Dev nD) (j : S26x16384.Idx) : (xT m d j).toNat < 100000 := by
  unfold xT; rw [Vin_x]; exact h d _

/-- The result array at the end: the transpose of the call's output. -/
theorem Vout_r (d : Dev nD) :
    Vout m d r' = transpose S16384x936 [1, 0] (outBuf m d) transposes_S936x16384_S16384x936_1_0 := by
  unfold Vout Vcall
  rw [StableHlo.unary_result, Function.update_self]

/-- Any array but the call's output and the result is, at the end, as it was at the call. -/
theorem Vout_of_ne (d : Dev nD) {b : Ref sig .tc} (h28 : b ≠ main_v28) (h27 : b ≠ main_v27) :
    Vout m d (Proc.devRef .tc b) = Vin m d (Proc.devRef .tc b) := by
  unfold Vout Vcall
  rw [StableHlo.unary_result_ne _ _ _ _ _ _ h28, Function.update_of_ne (StableHlo.devRef_ne_of_ne h27)]

/-- The arrays the transposes write. -/
abbrev tabRefs : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26]

theorem opsIn_writes : (opsIn (F := F)).Forall fun op => op.writes ⊆ (tabRefs.map (Proc.devRef (τ := τ) .tc)).toFinset := by
  simp only [List.Forall, StableHlo.unary_writes, Finset.singleton_subset_iff, List.mem_toFinset]
  iterate 26 (refine ⟨List.mem_map_of_mem (by decide), ?_⟩)
  exact List.mem_map_of_mem (by decide)

/-- An array none of the 27 transposes writes is, at the call, as launched. -/
theorem Vin_of_not_mem (d : Dev nD) {b : Ref sig .tc} (hb : b ∉ tabRefs) :
    Vin m d (Proc.devRef .tc b) = m ((SparseCore.T d).loc b) :=
  StableHlo.after_of_writes_sub (opsIn (F := F)) (launchContents m d) (W := tabRefs) opsIn_writes hb

/-- Every argument array is unchanged at the end. -/
theorem Vout_arg (d : Dev nD) {b : Ref sig .tc} (h28 : b ≠ main_v28) (h27 : b ≠ main_v27) (hb : b ∉ tabRefs) :
    Vout m d (Proc.devRef .tc b) = m ((SparseCore.T d).loc b) :=
  (Vout_of_ne m d h28 h27).trans (Vin_of_not_mem m d hb)

end Cert.Proof.KernelIdeal

end
-- ==== Proof.Bridge.lean ====
/-
  The kernel computes on transposed arrays: it transposes the index array and every table, produces the
  936 by 16384 array of the specification, and transposes that.  Entry by entry this is the specification in the
  reference's layout: a transpose of a rank-2 array read at (a, b) is the array at (b, a).
-/
import Idealize.ShloMosaic.Lib.ValueLayout
import proofs.«204037_g66941360275737_cont_sun_c4_657_24_alg».proof.Proof.Spec

namespace Cert.Spec

open Idealize.ShloMosaic Idealize.ShloMosaic.ValueIdx

variable {α : Type}

/-- The transpose of the kernel-layout result of the transposed arguments is the result in the reference's layout. -/
theorem transpose_outT_transpose (x : (⟨2, ![16384, 26]⟩ : Shape).Idx → BitVec 32)
    (t : Fin 26 → (⟨2, ![100000, 36]⟩ : Shape).Idx → α)
    (hx : (⟨2, ![16384, 26]⟩ : Shape).Transposes [1, 0] ⟨2, ![26, 16384]⟩)
    (ht : (⟨2, ![100000, 36]⟩ : Shape).Transposes [1, 0] ⟨2, ![36, 100000]⟩)
    (ho : (⟨2, ![936, 16384]⟩ : Shape).Transposes [1, 0] ⟨2, ![16384, 936]⟩) :
    transpose ⟨2, ![16384, 936]⟩ [1, 0]
      (outT (transpose ⟨2, ![26, 16384]⟩ [1, 0] x hx) (fun f => transpose ⟨2, ![36, 100000]⟩ [1, 0] (t f) ht)) ho
    = out x t := by
  funext j
  obtain ⟨b, u, rfl⟩ : ∃ (b : Fin 16384) (u : Fin 936), j = ix2 b u := ⟨j 0, j 1, eq_ix2 j⟩
  rw [transpose_ix2_apply, outT_apply, out_apply, transpose_ix2_apply, transpose_ix2_apply]

end Cert.Spec
-- ==== Proof.Claims.lean ====
/-
  From the run's post — every array of every device at the value after the last transpose — to the claims' posts: the
  result array is the specification's value of the arguments, in the reference's layout, and every argument array is
  unchanged.
-/
import proofs.«204037_g66941360275737_cont_sun_c4_657_24_alg».proof.Proof.Launch
import proofs.«204037_g66941360275737_cont_sun_c4_657_24_alg».proof.Proof.Bridge
import proofs.«204037_g66941360275737_cont_sun_c4_657_24_alg».proof.Defs
import proofs.«204037_g66941360275737_cont_sun_c4_657_24_alg».proof.Proof.Gen.Pre_input_domain

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.StableHlo (after launchContents)

variable {F : FTy → Type}
variable (m : (ℓ : Loc nD τ sig) → Buf (Elt F) ℓ) (ρ : Dev nD → PrngReg)
variable [FloatOps F]

/-! ## The result in the reference's layout -/

/-- The 26 argument tables as launched, as a function of the field. -/
def tA (c : Dev nD) : Fin 26 → S100000x36.Idx → Elt F .f32
  | ⟨0, _⟩ => m ((SparseCore.T c).loc main_arg1)
  | ⟨1, _⟩ => m ((SparseCore.T c).loc main_arg2)
  | ⟨2, _⟩ => m ((SparseCore.T c).loc main_arg3)
  | ⟨3, _⟩ => m ((SparseCore.T c).loc main_arg4)
  | ⟨4, _⟩ => m ((SparseCore.T c).loc main_arg5)
  | ⟨5, _⟩ => m ((SparseCore.T c).loc main_arg6)
  | ⟨6, _⟩ => m ((SparseCore.T c).loc main_arg7)
  | ⟨7, _⟩ => m ((SparseCore.T c).loc main_arg8)
  | ⟨8, _⟩ => m ((SparseCore.T c).loc main_arg9)
  | ⟨9, _⟩ => m ((SparseCore.T c).loc main_arg10)
  | ⟨10, _⟩ => m ((SparseCore.T c).loc main_arg11)
  | ⟨11, _⟩ => m ((SparseCore.T c).loc main_arg12)
  | ⟨12, _⟩ => m ((SparseCore.T c).loc main_arg13)
  | ⟨13, _⟩ => m ((SparseCore.T c).loc main_arg14)
  | ⟨14, _⟩ => m ((SparseCore.T c).loc main_arg15)
  | ⟨15, _⟩ => m ((SparseCore.T c).loc main_arg16)
  | ⟨16, _⟩ => m ((SparseCore.T c).loc main_arg17)
  | ⟨17, _⟩ => m ((SparseCore.T c).loc main_arg18)
  | ⟨18, _⟩ => m ((SparseCore.T c).loc main_arg19)
  | ⟨19, _⟩ => m ((SparseCore.T c).loc main_arg20)
  | ⟨20, _⟩ => m ((SparseCore.T c).loc main_arg21)
  | ⟨21, _⟩ => m ((SparseCore.T c).loc main_arg22)
  | ⟨22, _⟩ => m ((SparseCore.T c).loc main_arg23)
  | ⟨23, _⟩ => m ((SparseCore.T c).loc main_arg24)
  | ⟨24, _⟩ => m ((SparseCore.T c).loc main_arg25)
  | ⟨25, _⟩ => m ((SparseCore.T c).loc main_arg26)
  | ⟨_ + 26, h⟩ => absurd h (Nat.not_lt.2 (Nat.le_add_left _ _))

/-- Every transposed table at the call is the transpose of its argument. -/
theorem tT_eq (c : Dev nD) (f : Fin 26) :
    tT m c f = transpose S36x100000 [1, 0] (tA m c f) transposes_S100000x36_S36x100000_1_0 := by
  fin_cases f <;> (simp only [tT, tA]; unfold Vin; after_results_simp)

/-- The specification's value of the launch contents, in the reference's layout. -/
def resV (c : Dev nD) : Buf (Elt F) (rLoc c) := Cert.Spec.out (m ((SparseCore.T c).loc main_arg0)) (tA m c)

/-- The result array at the end is the specification's value of the arguments. -/
theorem Vout_r_eq (c : Dev nD) : Vout m c r' = resV m c := by
  rw [Vout_r]; unfold outBuf resV
  rw [show xT m c = transpose S26x16384 [1, 0] (m ((SparseCore.T c).loc main_arg0)) transposes_S16384x26_S26x16384_1_0 from Vin_x m c,
    show tT m c = (fun f => transpose S36x100000 [1, 0] (tA m c f) transposes_S100000x36_S36x100000_1_0) from funext (tT_eq m c)]
  exact Cert.Spec.transpose_outT_transpose _ _ _ _ _

/-! ## The claims' posts from the run's -/

/-- The run's post names the result: the specification's value of the arguments. -/
theorem QC_res {r : PUnit × MemSt nD τ sig (Elt F)} (h : QC m r) (c : Dev nD) :
    r.2.mem ((c.tc : Thread nD τ).loc main_v28) = resV m c :=
  (h c main_v28).trans (Vout_r_eq m c)

/-- The run's post leaves every argument array unchanged. -/
theorem QC_arg {r : PUnit × MemSt nD τ sig (Elt F)} (h : QC m r) (c : Dev nD) (b : Ref sig .tc)
    (h28 : b ≠ main_v28) (h27 : b ≠ main_v27) (hb : b ∉ tabRefs) :
    r.2.mem ((c.tc : Thread nD τ).loc b) = m ((c.tc : Thread nD τ).loc b) :=
  (h c b).trans (Vout_arg m c h28 h27 hb)

omit m ρ F [FloatOps F] in
/-- The frame: from the precondition's index range and the tile's task proved under it. -/
theorem frame_KI (hpre : ∀ m : (ℓ : Loc nD τ sig) → Buf (Elt Ideal) ℓ, Cert.Pre_KernelIdeal m → PreOK m)
    (htile : ∀ m : (ℓ : Loc nD τ sig) → Buf (Elt Ideal) ℓ, PreOK m → (K (F := Ideal)).TileObl (D (F := Ideal)) 𝒱 (P m) v₀ 0) :
    Cert.frame_KernelIdeal := by
  intro m g hp
  refine (θ_run _ _ _).mono (fun r h c => ?_) (run_main m g (htile m (hpre m hp)))
  iterate 26 (refine ⟨QC_arg m h c _ (by decide) (by decide) (by decide), ?_⟩)
  exact QC_arg m h c _ (by decide) (by decide) (by decide)

end Cert.Proof.KernelIdeal

end
-- ==== Proof.CommonBits.lean ====
/-
  The launch of the embedding-lookup kernel: the program as the launch theorem sees it, the ghost state, the arrays
  and scratch buffers under short names, the tile coordinates, and what the handshakes carry.

  The 27 transposed input arrays main_v0 … main_v26 are read-only for the call: every tile holds a read share of each,
  WHOLE, at the value the host transposes left there. The output array main_v27 (936 rows by 16384 columns) is dealt by
  rows: tile w = 2 s + c (subcore s of SparseCore c) owns rows [lo w, hi w) outright and leaves them at the
  specification's value.
-/
import proofs.«204037_g66941360275737_cont_sun_c4_657_24_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204037_g66941360275737_cont_sun_c4_657_24_alg».proof.Proof.Gen.Kernel

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents tcRefs)
open Idealize.ShloMosaic.Transfers (shareTokN shareDrop shareTok)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

/-- The index array and the 26 tables, transposed (the call's inputs), and the call's output, as device buffers. -/
abbrev x' : DevRef τ sig := Proc.devRef .tc (main_v0 : Ref sig .tc)
abbrev t1' : DevRef τ sig := Proc.devRef .tc (main_v1 : Ref sig .tc)
abbrev t2' : DevRef τ sig := Proc.devRef .tc (main_v2 : Ref sig .tc)
abbrev t3' : DevRef τ sig := Proc.devRef .tc (main_v3 : Ref sig .tc)
abbrev t4' : DevRef τ sig := Proc.devRef .tc (main_v4 : Ref sig .tc)
abbrev t5' : DevRef τ sig := Proc.devRef .tc (main_v5 : Ref sig .tc)
abbrev t6' : DevRef τ sig := Proc.devRef .tc (main_v6 : Ref sig .tc)
abbrev t7' : DevRef τ sig := Proc.devRef .tc (main_v7 : Ref sig .tc)
abbrev t8' : DevRef τ sig := Proc.devRef .tc (main_v8 : Ref sig .tc)
abbrev t9' : DevRef τ sig := Proc.devRef .tc (main_v9 : Ref sig .tc)
abbrev t10' : DevRef τ sig := Proc.devRef .tc (main_v10 : Ref sig .tc)
abbrev t11' : DevRef τ sig := Proc.devRef .tc (main_v11 : Ref sig .tc)
abbrev t12' : DevRef τ sig := Proc.devRef .tc (main_v12 : Ref sig .tc)
abbrev t13' : DevRef τ sig := Proc.devRef .tc (main_v13 : Ref sig .tc)
abbrev t14' : DevRef τ sig := Proc.devRef .tc (main_v14 : Ref sig .tc)
abbrev t15' : DevRef τ sig := Proc.devRef .tc (main_v15 : Ref sig .tc)
abbrev t16' : DevRef τ sig := Proc.devRef .tc (main_v16 : Ref sig .tc)
abbrev t17' : DevRef τ sig := Proc.devRef .tc (main_v17 : Ref sig .tc)
abbrev t18' : DevRef τ sig := Proc.devRef .tc (main_v18 : Ref sig .tc)
abbrev t19' : DevRef τ sig := Proc.devRef .tc (main_v19 : Ref sig .tc)
abbrev t20' : DevRef τ sig := Proc.devRef .tc (main_v20 : Ref sig .tc)
abbrev t21' : DevRef τ sig := Proc.devRef .tc (main_v21 : Ref sig .tc)
abbrev t22' : DevRef τ sig := Proc.devRef .tc (main_v22 : Ref sig .tc)
abbrev t23' : DevRef τ sig := Proc.devRef .tc (main_v23 : Ref sig .tc)
abbrev t24' : DevRef τ sig := Proc.devRef .tc (main_v24 : Ref sig .tc)
abbrev t25' : DevRef τ sig := Proc.devRef .tc (main_v25 : Ref sig .tc)
abbrev t26' : DevRef τ sig := Proc.devRef .tc (main_v26 : Ref sig .tc)
abbrev o' : DevRef τ sig := Proc.devRef .tc (main_v27 : Ref sig .tc)
abbrev r' : DevRef τ sig := Proc.devRef .tc (main_v28 : Ref sig .tc)

/-- The 27 input arrays of the call. -/
abbrev tabs : Finset (DevRef τ sig) := {x', t1', t2', t3', t4', t5', t6', t7', t8', t9', t10', t11', t12', t13', t14', t15', t16', t17', t18', t19', t20', t21', t22', t23', t24', t25', t26'}

/-- The same as locations of device `d`. -/
abbrev xLoc (d : Dev nD) : Loc nD τ sig := (SparseCore.T d).loc main_v0
abbrev tLoc1 (d : Dev nD) : Loc nD τ sig := (SparseCore.T d).loc main_v1
abbrev tLoc2 (d : Dev nD) : Loc nD τ sig := (SparseCore.T d).loc main_v2
abbrev tLoc3 (d : Dev nD) : Loc nD τ sig := (SparseCore.T d).loc main_v3
abbrev tLoc4 (d : Dev nD) : Loc nD τ sig := (SparseCore.T d).loc main_v4
abbrev tLoc5 (d : Dev nD) : Loc nD τ sig := (SparseCore.T d).loc main_v5
abbrev tLoc6 (d : Dev nD) : Loc nD τ sig := (SparseCore.T d).loc main_v6
abbrev tLoc7 (d : Dev nD) : Loc nD τ sig := (SparseCore.T d).loc main_v7
abbrev tLoc8 (d : Dev nD) : Loc nD τ sig := (SparseCore.T d).loc main_v8
abbrev tLoc9 (d : Dev nD) : Loc nD τ sig := (SparseCore.T d).loc main_v9
abbrev tLoc10 (d : Dev nD) : Loc nD τ sig := (SparseCore.T d).loc main_v10
abbrev tLoc11 (d : Dev nD) : Loc nD τ sig := (SparseCore.T d).loc main_v11
abbrev tLoc12 (d : Dev nD) : Loc nD τ sig := (SparseCore.T d).loc main_v12
abbrev tLoc13 (d : Dev nD) : Loc nD τ sig := (SparseCore.T d).loc main_v13
abbrev tLoc14 (d : Dev nD) : Loc nD τ sig := (SparseCore.T d).loc main_v14
abbrev tLoc15 (d : Dev nD) : Loc nD τ sig := (SparseCore.T d).loc main_v15
abbrev tLoc16 (d : Dev nD) : Loc nD τ sig := (SparseCore.T d).loc main_v16
abbrev tLoc17 (d : Dev nD) : Loc nD τ sig := (SparseCore.T d).loc main_v17
abbrev tLoc18 (d : Dev nD) : Loc nD τ sig := (SparseCore.T d).loc main_v18
abbrev tLoc19 (d : Dev nD) : Loc nD τ sig := (SparseCore.T d).loc main_v19
abbrev tLoc20 (d : Dev nD) : Loc nD τ sig := (SparseCore.T d).loc main_v20
abbrev tLoc21 (d : Dev nD) : Loc nD τ sig := (SparseCore.T d).loc main_v21
abbrev tLoc22 (d : Dev nD) : Loc nD τ sig := (SparseCore.T d).loc main_v22
abbrev tLoc23 (d : Dev nD) : Loc nD τ sig := (SparseCore.T d).loc main_v23
abbrev tLoc24 (d : Dev nD) : Loc nD τ sig := (SparseCore.T d).loc main_v24
abbrev tLoc25 (d : Dev nD) : Loc nD τ sig := (SparseCore.T d).loc main_v25
abbrev tLoc26 (d : Dev nD) : Loc nD τ sig := (SparseCore.T d).loc main_v26
abbrev oLoc (d : Dev nD) : Loc nD τ sig := (SparseCore.T d).loc main_v27
abbrev rLoc (d : Dev nD) : Loc nD τ sig := (SparseCore.T d).loc main_v28

/-- The arrays as the kernel's body table passes them to a tile. -/
abbrev xV : Memref sig .scVector .hbm S26x16384 .i32 := Memref.whole main_v0_scv
abbrev tV1 : Memref sig .scVector .hbm S36x100000 .f32 := Memref.whole main_v1_scv
abbrev tV2 : Memref sig .scVector .hbm S36x100000 .f32 := Memref.whole main_v2_scv
abbrev tV3 : Memref sig .scVector .hbm S36x100000 .f32 := Memref.whole main_v3_scv
abbrev tV4 : Memref sig .scVector .hbm S36x100000 .f32 := Memref.whole main_v4_scv
abbrev tV5 : Memref sig .scVector .hbm S36x100000 .f32 := Memref.whole main_v5_scv
abbrev tV6 : Memref sig .scVector .hbm S36x100000 .f32 := Memref.whole main_v6_scv
abbrev tV7 : Memref sig .scVector .hbm S36x100000 .f32 := Memref.whole main_v7_scv
abbrev tV8 : Memref sig .scVector .hbm S36x100000 .f32 := Memref.whole main_v8_scv
abbrev tV9 : Memref sig .scVector .hbm S36x100000 .f32 := Memref.whole main_v9_scv
abbrev tV10 : Memref sig .scVector .hbm S36x100000 .f32 := Memref.whole main_v10_scv
abbrev tV11 : Memref sig .scVector .hbm S36x100000 .f32 := Memref.whole main_v11_scv
abbrev tV12 : Memref sig .scVector .hbm S36x100000 .f32 := Memref.whole main_v12_scv
abbrev tV13 : Memref sig .scVector .hbm S36x100000 .f32 := Memref.whole main_v13_scv
abbrev tV14 : Memref sig .scVector .hbm S36x100000 .f32 := Memref.whole main_v14_scv
abbrev tV15 : Memref sig .scVector .hbm S36x100000 .f32 := Memref.whole main_v15_scv
abbrev tV16 : Memref sig .scVector .hbm S36x100000 .f32 := Memref.whole main_v16_scv
abbrev tV17 : Memref sig .scVector .hbm S36x100000 .f32 := Memref.whole main_v17_scv
abbrev tV18 : Memref sig .scVector .hbm S36x100000 .f32 := Memref.whole main_v18_scv
abbrev tV19 : Memref sig .scVector .hbm S36x100000 .f32 := Memref.whole main_v19_scv
abbrev tV20 : Memref sig .scVector .hbm S36x100000 .f32 := Memref.whole main_v20_scv
abbrev tV21 : Memref sig .scVector .hbm S36x100000 .f32 := Memref.whole main_v21_scv
abbrev tV22 : Memref sig .scVector .hbm S36x100000 .f32 := Memref.whole main_v22_scv
abbrev tV23 : Memref sig .scVector .hbm S36x100000 .f32 := Memref.whole main_v23_scv
abbrev tV24 : Memref sig .scVector .hbm S36x100000 .f32 := Memref.whole main_v24_scv
abbrev tV25 : Memref sig .scVector .hbm S36x100000 .f32 := Memref.whole main_v25_scv
abbrev tV26 : Memref sig .scVector .hbm S36x100000 .f32 := Memref.whole main_v26_scv
abbrev oV : Memref sig .scVector .hbm S936x16384 .f32 := Memref.whole main_v27_scv
/-- A tile's scratch: one table row, the two halves of an index row, one half of an output row. -/
abbrev sRow : Memref sig .scVector .vmem S100000 .f32 := Memref.whole cc0_scratch0
abbrev sIa : Memref sig .scVector .vmem S8192 .i32 := Memref.whole cc0_scratch1
abbrev sIb : Memref sig .scVector .vmem S8192 .i32 := Memref.whole cc0_scratch2
abbrev sOch : Memref sig .scVector .vmem S8192 .f32 := Memref.whole cc0_scratch3

/-! ## The tile coordinates and the tiles -/

abbrev cV (L : grid0.Coords) : Fin τ.nSC := (L 0).castLE hcore0
abbrev jV (L : grid0.Coords) : Fin τ.nSub := (L 1).castLE hsub0
/-- The grid point of subcore `s` of SparseCore `c`, as the body table passes it to the kernel's function. -/
def coordsV (c : Fin (grid0.bound 0)) (s : Fin (grid0.bound 1)) : grid0.Coords :=
  fun | 0 => c | 1 => s | ⟨_ + 2, h⟩ => absurd h (Nat.not_lt.2 (Nat.le_add_left _ _))

/-- The tile number of subcore `s` of SparseCore `c`: `2 s + c`, below 32. -/
def wid (c s : ℕ) : ℕ := s * 2 + c
theorem wid_lt {c s : ℕ} (hc : c < 2) (hs : s < 16) : wid c s < 32 := by unfold wid; omega
theorem wid_inj {c s c' s' : ℕ} (hc : c < 2) (hc' : c' < 2) (h : wid c s = wid c' s') : c = c' ∧ s = s' := by
  unfold wid at h; omega

/-- The read share of the input arrays that subcore `s` of SparseCore `c` holds: the whole halved per SparseCore,
    then per subcore. -/
def qT (c s : ℕ) : PosShare TreeShare := shareTokN (shareTokN fullShare c) s

/-- The elements of the output array in rows `[lo w, hi w)`, every column: tile `w`'s. -/
def oRows (w : ℕ) : Finset S936x16384.Idx :=
  Finset.univ.filter fun j => Cert.Spec.lo w ≤ (j 0).val ∧ (j 0).val < Cert.Spec.hi w

theorem mem_oRows {w : ℕ} {j : S936x16384.Idx} : j ∈ oRows w ↔ Cert.Spec.lo w ≤ (j 0).val ∧ (j 0).val < Cert.Spec.hi w := by
  unfold oRows; rw [Finset.mem_filter]; exact ⟨fun h => h.2, fun h => ⟨Finset.mem_univ _, h⟩⟩

/-! ## The host operations and the values they leave -/

variable (m : (ℓ : Loc nD τ sig) → Buf (Elt F) ℓ) (ρ : Dev nD → PrngReg)
variable [FloatOps F]

/-- The 27 transposes before the call, in program order; the transpose after it. -/
abbrev opT0 : HloOp τ sig (Elt F) := StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev opT1 : HloOp τ sig (Elt F) := StableHlo.unary main_arg1 main_v1 ((transpose S36x100000 [1, 0] · transposes_S100000x36_S36x100000_1_0) : (⟨S100000x36, .f32⟩ : BufTy).Contents (Elt F) → (⟨S36x100000, .f32⟩ : BufTy).Contents (Elt F))
abbrev opT2 : HloOp τ sig (Elt F) := StableHlo.unary main_arg2 main_v2 ((transpose S36x100000 [1, 0] · transposes_S100000x36_S36x100000_1_0) : (⟨S100000x36, .f32⟩ : BufTy).Contents (Elt F) → (⟨S36x100000, .f32⟩ : BufTy).Contents (Elt F))
abbrev opT3 : HloOp τ sig (Elt F) := StableHlo.unary main_arg3 main_v3 ((transpose S36x100000 [1, 0] · transposes_S100000x36_S36x100000_1_0) : (⟨S100000x36, .f32⟩ : BufTy).Contents (Elt F) → (⟨S36x100000, .f32⟩ : BufTy).Contents (Elt F))
abbrev opT4 : HloOp τ sig (Elt F) := StableHlo.unary main_arg4 main_v4 ((transpose S36x100000 [1, 0] · transposes_S100000x36_S36x100000_1_0) : (⟨S100000x36, .f32⟩ : BufTy).Contents (Elt F) → (⟨S36x100000, .f32⟩ : BufTy).Contents (Elt F))
abbrev opT5 : HloOp τ sig (Elt F) := StableHlo.unary main_arg5 main_v5 ((transpose S36x100000 [1, 0] · transposes_S100000x36_S36x100000_1_0) : (⟨S100000x36, .f32⟩ : BufTy).Contents (Elt F) → (⟨S36x100000, .f32⟩ : BufTy).Contents (Elt F))
abbrev opT6 : HloOp τ sig (Elt F) := StableHlo.unary main_arg6 main_v6 ((transpose S36x100000 [1, 0] · transposes_S100000x36_S36x100000_1_0) : (⟨S100000x36, .f32⟩ : BufTy).Contents (Elt F) → (⟨S36x100000, .f32⟩ : BufTy).Contents (Elt F))
abbrev opT7 : HloOp τ sig (Elt F) := StableHlo.unary main_arg7 main_v7 ((transpose S36x100000 [1, 0] · transposes_S100000x36_S36x100000_1_0) : (⟨S100000x36, .f32⟩ : BufTy).Contents (Elt F) → (⟨S36x100000, .f32⟩ : BufTy).Contents (Elt F))
abbrev opT8 : HloOp τ sig (Elt F) := StableHlo.unary main_arg8 main_v8 ((transpose S36x100000 [1, 0] · transposes_S100000x36_S36x100000_1_0) : (⟨S100000x36, .f32⟩ : BufTy).Contents (Elt F) → (⟨S36x100000, .f32⟩ : BufTy).Contents (Elt F))
abbrev opT9 : HloOp τ sig (Elt F) := StableHlo.unary main_arg9 main_v9 ((transpose S36x100000 [1, 0] · transposes_S100000x36_S36x100000_1_0) : (⟨S100000x36, .f32⟩ : BufTy).Contents (Elt F) → (⟨S36x100000, .f32⟩ : BufTy).Contents (Elt F))
abbrev opT10 : HloOp τ sig (Elt F) := StableHlo.unary main_arg10 main_v10 ((transpose S36x100000 [1, 0] · transposes_S100000x36_S36x100000_1_0) : (⟨S100000x36, .f32⟩ : BufTy).Contents (Elt F) → (⟨S36x100000, .f32⟩ : BufTy).Contents (Elt F))
abbrev opT11 : HloOp τ sig (Elt F) := StableHlo.unary main_arg11 main_v11 ((transpose S36x100000 [1, 0] · transposes_S100000x36_S36x100000_1_0) : (⟨S100000x36, .f32⟩ : BufTy).Contents (Elt F) → (⟨S36x100000, .f32⟩ : BufTy).Contents (Elt F))
abbrev opT12 : HloOp τ sig (Elt F) := StableHlo.unary main_arg12 main_v12 ((transpose S36x100000 [1, 0] · transposes_S100000x36_S36x100000_1_0) : (⟨S100000x36, .f32⟩ : BufTy).Contents (Elt F) → (⟨S36x100000, .f32⟩ : BufTy).Contents (Elt F))
abbrev opT13 : HloOp τ sig (Elt F) := StableHlo.unary main_arg13 main_v13 ((transpose S36x100000 [1, 0] · transposes_S100000x36_S36x100000_1_0) : (⟨S100000x36, .f32⟩ : BufTy).Contents (Elt F) → (⟨S36x100000, .f32⟩ : BufTy).Contents (Elt F))
abbrev opT14 : HloOp τ sig (Elt F) := StableHlo.unary main_arg14 main_v14 ((transpose S36x100000 [1, 0] · transposes_S100000x36_S36x100000_1_0) : (⟨S100000x36, .f32⟩ : BufTy).Contents (Elt F) → (⟨S36x100000, .f32⟩ : BufTy).Contents (Elt F))
abbrev opT15 : HloOp τ sig (Elt F) := StableHlo.unary main_arg15 main_v15 ((transpose S36x100000 [1, 0] · transposes_S100000x36_S36x100000_1_0) : (⟨S100000x36, .f32⟩ : BufTy).Contents (Elt F) → (⟨S36x100000, .f32⟩ : BufTy).Contents (Elt F))
abbrev opT16 : HloOp τ sig (Elt F) := StableHlo.unary main_arg16 main_v16 ((transpose S36x100000 [1, 0] · transposes_S100000x36_S36x100000_1_0) : (⟨S100000x36, .f32⟩ : BufTy).Contents (Elt F) → (⟨S36x100000, .f32⟩ : BufTy).Contents (Elt F))
abbrev opT17 : HloOp τ sig (Elt F) := StableHlo.unary main_arg17 main_v17 ((transpose S36x100000 [1, 0] · transposes_S100000x36_S36x100000_1_0) : (⟨S100000x36, .f32⟩ : BufTy).Contents (Elt F) → (⟨S36x100000, .f32⟩ : BufTy).Contents (Elt F))
abbrev opT18 : HloOp τ sig (Elt F) := StableHlo.unary main_arg18 main_v18 ((transpose S36x100000 [1, 0] · transposes_S100000x36_S36x100000_1_0) : (⟨S100000x36, .f32⟩ : BufTy).Contents (Elt F) → (⟨S36x100000, .f32⟩ : BufTy).Contents (Elt F))
abbrev opT19 : HloOp τ sig (Elt F) := StableHlo.unary main_arg19 main_v19 ((transpose S36x100000 [1, 0] · transposes_S100000x36_S36x100000_1_0) : (⟨S100000x36, .f32⟩ : BufTy).Contents (Elt F) → (⟨S36x100000, .f32⟩ : BufTy).Contents (Elt F))
abbrev opT20 : HloOp τ sig (Elt F) := StableHlo.unary main_arg20 main_v20 ((transpose S36x100000 [1, 0] · transposes_S100000x36_S36x100000_1_0) : (⟨S100000x36, .f32⟩ : BufTy).Contents (Elt F) → (⟨S36x100000, .f32⟩ : BufTy).Contents (Elt F))
abbrev opT21 : HloOp τ sig (Elt F) := StableHlo.unary main_arg21 main_v21 ((transpose S36x100000 [1, 0] · transposes_S100000x36_S36x100000_1_0) : (⟨S100000x36, .f32⟩ : BufTy).Contents (Elt F) → (⟨S36x100000, .f32⟩ : BufTy).Contents (Elt F))
abbrev opT22 : HloOp τ sig (Elt F) := StableHlo.unary main_arg22 main_v22 ((transpose S36x100000 [1, 0] · transposes_S100000x36_S36x100000_1_0) : (⟨S100000x36, .f32⟩ : BufTy).Contents (Elt F) → (⟨S36x100000, .f32⟩ : BufTy).Contents (Elt F))
abbrev opT23 : HloOp τ sig (Elt F) := StableHlo.unary main_arg23 main_v23 ((transpose S36x100000 [1, 0] · transposes_S100000x36_S36x100000_1_0) : (⟨S100000x36, .f32⟩ : BufTy).Contents (Elt F) → (⟨S36x100000, .f32⟩ : BufTy).Contents (Elt F))
abbrev opT24 : HloOp τ sig (Elt F) := StableHlo.unary main_arg24 main_v24 ((transpose S36x100000 [1, 0] · transposes_S100000x36_S36x100000_1_0) : (⟨S100000x36, .f32⟩ : BufTy).Contents (Elt F) → (⟨S36x100000, .f32⟩ : BufTy).Contents (Elt F))
abbrev opT25 : HloOp τ sig (Elt F) := StableHlo.unary main_arg25 main_v25 ((transpose S36x100000 [1, 0] · transposes_S100000x36_S36x100000_1_0) : (⟨S100000x36, .f32⟩ : BufTy).Contents (Elt F) → (⟨S36x100000, .f32⟩ : BufTy).Contents (Elt F))
abbrev opT26 : HloOp τ sig (Elt F) := StableHlo.unary main_arg26 main_v26 ((transpose S36x100000 [1, 0] · transposes_S100000x36_S36x100000_1_0) : (⟨S100000x36, .f32⟩ : BufTy).Contents (Elt F) → (⟨S36x100000, .f32⟩ : BufTy).Contents (Elt F))
abbrev opR : HloOp τ sig (Elt F) := StableHlo.unary main_v27 main_v28 ((transpose S16384x936 [1, 0] · transposes_S936x16384_S16384x936_1_0) : (⟨S936x16384, .f32⟩ : BufTy).Contents (Elt F) → (⟨S16384x936, .f32⟩ : BufTy).Contents (Elt F))
abbrev opsIn : List (HloOp τ sig (Elt F)) := [opT0, opT1, opT2, opT3, opT4, opT5, opT6, opT7, opT8, opT9, opT10, opT11, opT12, opT13, opT14, opT15, opT16, opT17, opT18, opT19, opT20, opT21, opT22, opT23, opT24, opT25, opT26]

/-- What device `d`'s arrays hold when the call starts: the launch contents, the 27 transposes done. -/
def Vin (d : Dev nD) : Valuation τ sig (Elt F) := after (opsIn (F := F)) (launchContents m d)

/-- The transposed index array and the transposed tables at the call, as the specification's functions take them. -/
def xT (d : Dev nD) : S26x16384.Idx → BitVec 32 := Vin m d x'
def tT (d : Dev nD) : Fin 26 → S36x100000.Idx → Elt F .f32
  | ⟨0, _⟩ => Vin m d t1'
  | ⟨1, _⟩ => Vin m d t2'
  | ⟨2, _⟩ => Vin m d t3'
  | ⟨3, _⟩ => Vin m d t4'
  | ⟨4, _⟩ => Vin m d t5'
  | ⟨5, _⟩ => Vin m d t6'
  | ⟨6, _⟩ => Vin m d t7'
  | ⟨7, _⟩ => Vin m d t8'
  | ⟨8, _⟩ => Vin m d t9'
  | ⟨9, _⟩ => Vin m d t10'
  | ⟨10, _⟩ => Vin m d t11'
  | ⟨11, _⟩ => Vin m d t12'
  | ⟨12, _⟩ => Vin m d t13'
  | ⟨13, _⟩ => Vin m d t14'
  | ⟨14, _⟩ => Vin m d t15'
  | ⟨15, _⟩ => Vin m d t16'
  | ⟨16, _⟩ => Vin m d t17'
  | ⟨17, _⟩ => Vin m d t18'
  | ⟨18, _⟩ => Vin m d t19'
  | ⟨19, _⟩ => Vin m d t20'
  | ⟨20, _⟩ => Vin m d t21'
  | ⟨21, _⟩ => Vin m d t22'
  | ⟨22, _⟩ => Vin m d t23'
  | ⟨23, _⟩ => Vin m d t24'
  | ⟨24, _⟩ => Vin m d t25'
  | ⟨25, _⟩ => Vin m d t26'
  | ⟨_ + 26, h⟩ => absurd h (Nat.not_lt.2 (Nat.le_add_left _ _))

/-- What the call leaves in the output array: the specification's value of the inputs. -/
def outBuf (d : Dev nD) : Buf (Elt F) (oLoc d) := Cert.Spec.outT (xT m d) (tT m d)

/-! ## What the handshakes carry -/

/-- The input arrays, each whole at share `q`, at the values the call starts from. -/
def tabsAt (d : Dev nD) (q : PosShare TreeShare) : sProp 𝕄 := bigSep tabs fun b => ((d, b) : Loc nD τ sig) ↦{q} Vin m d b
/-- Tile `w`'s rows of the output array, at contents `f`. -/
abbrev oRowsPts (d : Dev nD) (w : ℕ) (f : Buf (Elt F) (oLoc d)) : sProp 𝕄 := oLoc d ↦[oRows w]{fullShare} f

/-- A tile's task: its read shares of the inputs and its rows of the output, at the launch contents; -/
def goT (d : Dev nD) (c s : ℕ) : sProp 𝕄 := iprop(tabsAt m d (qT c s) ∗ oRowsPts d (wid c s) (m (oLoc d)))
/-- its result: the shares back and its rows at the specification's value. -/
def tdT (d : Dev nD) (c s : ℕ) : sProp 𝕄 := iprop(tabsAt m d (qT c s) ∗ oRowsPts d (wid c s) (outBuf m d))

/-- The one call hands each SparseCore its 16 tiles' tasks and takes back their results. -/
def P : (K (F := F)).Pay (nD := nD) (Val := Elt F) (Name := ℕ) (U := UU) where
  st := fun _ d c => bigSep Finset.univ fun i : Fin 16 => goT m d c.val i.val
  dn := fun _ d c => bigSep Finset.univ fun i : Fin 16 => tdT m d c.val i.val
  go := fun _ d c i => goT m d c.val i.val
  td := fun _ d c i => tdT m d c.val i.val
  x := fun _ _ => iprop(emp)

theorem P_st (q : Fin 1) (d : Dev nD) (c : Fin ((K (F := F)).nCore q)) :
    (P m).st q d c = bigSep Finset.univ fun i : Fin 16 => goT m d c.val i.val := rfl
theorem P_dn (q : Fin 1) (d : Dev nD) (c : Fin ((K (F := F)).nCore q)) :
    (P m).dn q d c = bigSep Finset.univ fun i : Fin 16 => tdT m d c.val i.val := rfl
theorem P_go (q : Fin 1) (d : Dev nD) (c : Fin ((K (F := F)).nCore q)) (i : Fin ((K (F := F)).nSub q)) :
    (P m).go q d c i = goT m d c.val i.val := rfl
theorem P_td (q : Fin 1) (d : Dev nD) (c : Fin ((K (F := F)).nCore q)) (i : Fin ((K (F := F)).nSub q)) :
    (P m).td q d c i = tdT m d c.val i.val := rfl
theorem P_x (q : Fin 1) (thr : Thread nD τ) : (P m).x q thr = iprop(emp) := rfl

instance goT_storable (d : Dev nD) (c s : ℕ) : BI.Storable (upEmb : UEmb _ 𝕄) (goT m d c s) := by
  unfold goT tabsAt; infer_instance
instance tdT_storable (d : Dev nD) (c s : ℕ) : BI.Storable (upEmb : UEmb _ 𝕄) (tdT m d c s) := by
  unfold tdT tabsAt; infer_instance

instance P_storable : (P (F := F) m).IsStorable where
  st _ d c := by rw [P_st]; infer_instance
  dn _ d c := by rw [P_dn]; infer_instance
  go _ d c i := by rw [P_go]; infer_instance
  td _ d c i := by rw [P_td]; infer_instance

/-- The input arrays' family, one hypothesis per array. -/
theorem tabs_expand (Φ : DevRef τ sig → sProp 𝕄) :
    bigSep tabs Φ = iprop(Φ x' ∗ Φ t1' ∗ Φ t2' ∗ Φ t3' ∗ Φ t4' ∗ Φ t5' ∗ Φ t6' ∗ Φ t7' ∗ Φ t8' ∗ Φ t9' ∗ Φ t10' ∗ Φ t11' ∗ Φ t12' ∗ Φ t13' ∗ Φ t14' ∗ Φ t15' ∗ Φ t16' ∗ Φ t17' ∗ Φ t18' ∗ Φ t19' ∗ Φ t20' ∗ Φ t21' ∗ Φ t22' ∗ Φ t23' ∗ Φ t24' ∗ Φ t25' ∗ Φ t26') := by
  unfold tabs
  repeat rw [SparseCore.bigSep_insert' (by decide)]
  rw [bigSep_singleton]

omit [FloatOps F] in
/-- What the proof asks of the launch memory: every index word names a table row. -/
def PreOK : Prop := ∀ (d : Dev nD) (j : S16384x26.Idx), (m ((SparseCore.T d).loc main_arg0) j).toNat < 100000

end Cert.Proof.Kernel

end
-- ==== Proof.LaunchBits.lean ====
/-
  The launch of the embedding-lookup kernel: the launch theorem applied to the program, over a hypothesis for the
  tile's task.

  The split of a SparseCore's operands among its 16 tiles is the identity (the call hands each SparseCore its tiles'
  tasks). The launch element is the handshakes' alone: the kernel's transfers are local copies, each waited for on its
  own semaphore, and need no schedule. On the TensorCore: the 27 transposes, the call — the 27 transposed arrays split
  into 32 read shares each (halved per SparseCore, then per tile), the output array split by rows among the 32 tiles,
  both joined again when the call returns —, the last transpose. The run's post names every array of the device at the
  end: the arguments unchanged, the result the transpose of the specification's value of the transposed arguments.
-/
import proofs.«204037_g66941360275737_cont_sun_c4_657_24_alg».proof.Proof.CommonBits

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq seq after launchContents tcRefs devRef_mem_tcRefs unary_bufs_sub)
open Idealize.ShloMosaic.Transfers (shareTokN shareDrop shareTok pointsTo_toks)
open Idealize.ShloMosaic.Tactic

variable {F : FTy → Type}

local notation "𝕄" => MT nD τ sig (HIx 1) (Elt F) ℕ UU ℕ

/-! ## Families over two index sets -/

omit F in
theorem bigSep_swap {M : Type} [URA M] {I J : Type} [DecidableEq I] (s : Finset I) (t : Finset J) (Φ : I → J → sProp M) :
    bigSep s (fun b => bigSep t fun c => Φ b c) = bigSep t fun c => bigSep s fun b => Φ b c := by
  induction s using Finset.induction_on with
  | empty => simp only [bigSep_empty, bigSep_emp_const]
  | insert a s ha ih => simp only [bigSep_insert ha, ih, bigSep_sep]

variable (m : (ℓ : Loc nD τ sig) → Buf (Elt F) ℓ) (ρ : Dev nD → PrngReg)
variable [FloatOps F]

/-! ## The split of a SparseCore's operands among its tiles -/

theorem vecSplit : (K (F := F)).VecSplit' (P m) 0 := by
  intro d c
  show (bigSep Finset.univ fun i : Fin 16 => goT m d c.val i.val) ⊢ |={Set.univ}=> iprop(
      (bigSep Finset.univ fun i : Fin 16 => goT m d c.val i.val)
      ∗ ((bigSep Finset.univ fun i : Fin 16 => tdT m d c.val i.val) -∗ bigSep Finset.univ fun i : Fin 16 => tdT m d c.val i.val))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Read shares of an array, 32 of them: halved per SparseCore, then per tile -/

omit [FloatOps F] in
theorem toks_eq {ℓ : Loc nD τ sig} (f : Buf (Elt F) ℓ) (q : PosShare TreeShare) (n : ℕ) :
    (ℓ ↦{q} f : sProp 𝕄) = iprop((ℓ ↦{shareDrop q n} f) ∗ bigSep Finset.univ fun i : Fin n => ℓ ↦{shareTok q n i} f) :=
  BI.equiv_iff.mp ⟨(pointsTo_toks q n).1, (pointsTo_toks q n).2⟩

omit [FloatOps F] in
theorem share_split {ℓ : Loc nD τ sig} (f : Buf (Elt F) ℓ) :
    (ℓ ↦{fullShare} f : sProp 𝕄)
      = iprop((ℓ ↦{shareDrop fullShare 2} f) ∗ (bigSep Finset.univ fun c : Fin 2 => ℓ ↦{shareDrop (shareTokN fullShare c.val) 16} f)
          ∗ bigSep Finset.univ fun c : Fin 2 => bigSep Finset.univ fun i : Fin 16 => ℓ ↦{qT c.val i.val} f) := by
  have h2 : (bigSep Finset.univ fun c : Fin 2 => (ℓ ↦{shareTok fullShare 2 c} f : sProp 𝕄))
      = bigSep Finset.univ fun c : Fin 2 => iprop((ℓ ↦{shareDrop (shareTokN fullShare c.val) 16} f)
          ∗ bigSep Finset.univ fun i : Fin 16 => ℓ ↦{qT c.val i.val} f) :=
    bigSep_congr fun c _ => toks_eq f (shareTok fullShare 2 c) 16
  rw [toks_eq f fullShare 2, h2, bigSep_sep']

/-- The 27 input arrays, whole at the full share, are what is left over and the 32 tiles' shares. -/
theorem tabs_split (d : Dev nD) (W : Valuation τ sig (Elt F)) :
    (held (T d) tabs W : sProp 𝕄)
      = iprop((bigSep tabs fun b => ((d, b) : Loc nD τ sig) ↦{shareDrop fullShare 2} W b)
          ∗ (bigSep tabs fun b => bigSep Finset.univ fun c : Fin 2 => ((d, b) : Loc nD τ sig) ↦{shareDrop (shareTokN fullShare c.val) 16} W b)
          ∗ bigSep Finset.univ fun c : Fin 2 => bigSep Finset.univ fun i : Fin 16 =>
              bigSep tabs fun b => ((d, b) : Loc nD τ sig) ↦{qT c.val i.val} W b) := by
  unfold held
  rw [bigSep_congr fun b _ => share_split (F := F) (ℓ := ((d, b) : Loc nD τ sig)) (W b), bigSep_sep', bigSep_sep',
    bigSep_swap tabs Finset.univ fun b (c : Fin 2) => bigSep Finset.univ fun i : Fin 16 => (((d, b) : Loc nD τ sig) ↦{qT c.val i.val} W b : sProp 𝕄),
    bigSep_congr fun (c : Fin 2) _ => bigSep_swap tabs Finset.univ fun b (i : Fin 16) => (((d, b) : Loc nD τ sig) ↦{qT c.val i.val} W b : sProp 𝕄)]

/-! ## The output array, by the 32 tiles' rows -/

omit [FloatOps F] in
theorem oRows_disjoint : ∀ p ∈ (Finset.univ : Finset (Fin 2 × Fin 16)), ∀ p' ∈ (Finset.univ : Finset (Fin 2 × Fin 16)), p ≠ p' →
    Disjoint (oRows (wid p.1.val p.2.val)) (oRows (wid p'.1.val p'.2.val)) := by
  intro p _ p' _ hne
  refine Finset.disjoint_left.mpr fun j h1 h2 => hne ?_
  have e1 := Cert.Spec.owner_unique (mem_oRows.mp h1).1 (mem_oRows.mp h1).2
  have e2 := Cert.Spec.owner_unique (mem_oRows.mp h2).1 (mem_oRows.mp h2).2
  obtain ⟨hc, hs⟩ := wid_inj p.1.isLt p'.1.isLt (e1.trans e2.symm)
  exact Prod.ext (Fin.ext hc) (Fin.ext hs)

omit [FloatOps F] in
theorem oRows_cover : (Finset.univ : Finset (Fin 2 × Fin 16)).biUnion (fun p => oRows (wid p.1.val p.2.val)) = Finset.univ := by
  refine Finset.eq_univ_of_forall fun j => Finset.mem_biUnion.mpr ?_
  have hj : (j 0).val < 936 := (j 0).isLt
  have hw := Cert.Spec.owner_lt hj
  refine ⟨(⟨Cert.Spec.owner (j 0).val % 2, Nat.mod_lt _ (by decide)⟩, ⟨Cert.Spec.owner (j 0).val / 2, by omega⟩), Finset.mem_univ _, mem_oRows.mpr ?_⟩
  have e : wid (Cert.Spec.owner (j 0).val % 2) (Cert.Spec.owner (j 0).val / 2) = Cert.Spec.owner (j 0).val := by unfold wid; omega
  show Cert.Spec.lo (wid (Cert.Spec.owner (j 0).val % 2) (Cert.Spec.owner (j 0).val / 2)) ≤ _ ∧ _ < Cert.Spec.hi (wid (Cert.Spec.owner (j 0).val % 2) (Cert.Spec.owner (j 0).val / 2))
  rw [e]; exact ⟨Cert.Spec.lo_owner_le _, Cert.Spec.lt_hi_owner _⟩

omit [FloatOps F] in
/-- The output array whole is the 32 tiles' rows. -/
theorem o_split (d : Dev nD) (f : Buf (Elt F) (oLoc d)) :
    (oLoc d ↦{fullShare} f : sProp 𝕄)
      = bigSep Finset.univ fun c : Fin 2 => bigSep Finset.univ fun i : Fin 16 => oRowsPts d (wid c.val i.val) f := by
  rw [← bigSep_univ_prod (fun p : Fin 2 × Fin 16 => (oRowsPts d (wid p.1.val p.2.val) f : sProp 𝕄))]
  show _ = bigSep Finset.univ fun p : Fin 2 × Fin 16 => (oLoc d ↦[oRows (wid p.1.val p.2.val)]{fullShare} f : sProp 𝕄)
  rw [← pointsTo_biUnion Finset.univ (ℓ := oLoc d) (fun p : Fin 2 × Fin 16 => oRows (wid p.1.val p.2.val)) oRows_disjoint, oRows_cover]

/-! ## @main on the TensorCore -/

omit [FloatOps F] in
/-- The launch's arrays of the TensorCore, regrouped over all its references. -/
theorem unscoped_held (d : Dev nD) :
    (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ from
    Finset.filter_true_of_mem fun b _ => by revert b; decide, bigSep_map]
  rfl

/-- @main: the 27 transposes, the call, the last transpose. -/
theorem main_eq (d : Dev nD) :
    main (F := F) d = (seq (opsIn (F := F)) >>= fun _ => (K (F := F)).run d 0 >>= fun _ => hlo rfl (opR (F := F)) (fun _ => .ret (⟨⟩ : PUnit)) >>= fun _ => pure (⟨⟩ : PUnit)) := rfl

theorem opsIn_sub : ∀ op ∈ opsIn (F := F), op.bufs ⊆ tcRefs τ sig :=
  List.forall_iff_forall_mem.1 (by simp only [List.Forall, unary_bufs_sub, and_self])

theorem opsIn_fresh : ∀ op ∈ opsIn (F := F), op.fresh = ∅ := by
  intro _ h; (repeat (cases h with | head => rfl | tail _ h => ?_)); exact nomatch h

/-- The arrays the call takes. -/
abbrev inRefs : Finset (DevRef τ sig) := insert o' tabs

omit F in
theorem inRefs_sub : inRefs ⊆ tcRefs τ sig := by
  simp only [inRefs, tabs, Finset.insert_subset_iff, Finset.singleton_subset_iff]
  iterate 27 (refine ⟨devRef_mem_tcRefs _, ?_⟩)
  exact devRef_mem_tcRefs _

omit [FloatOps F] in
/-- All the TensorCore's arrays: the output array, the 27 inputs of the call, the rest. -/
theorem held_all_split (d : Dev nD) (W : Valuation τ sig (Elt F)) :
    (held (T d) (tcRefs τ sig) W : sProp 𝕄)
      = iprop(((oLoc d ↦{fullShare} W o') ∗ held (T d) tabs W) ∗ held (T d) (tcRefs τ sig \ inRefs) W) := by
  rw [held_sub_split (T d) inRefs_sub W]
  congr 1

/-- The output array is none of the 27 transposes' results: at the call it is as launched. -/
theorem Vin_o (d : Dev nD) : Vin m d o' = m (oLoc d) := by
  unfold Vin
  after_results_simp

/-- The arrays after the call: the output array at the specification's value; after the last transpose. -/
def Vcall (d : Dev nD) : Valuation τ sig (Elt F) := Function.update (Vin m d) o' (outBuf m d)
def Vout (d : Dev nD) : Valuation τ sig (Elt F) := (opR (F := F)).result (Vcall m d)

theorem held_call (d : Dev nD) :
    (held (T d) (tcRefs τ sig) (Vcall m d) : sProp 𝕄)
      = iprop(((oLoc d ↦{fullShare} outBuf m d) ∗ held (T d) tabs (Vin m d)) ∗ held (T d) (tcRefs τ sig \ inRefs) (Vin m d)) := by
  rw [held_all_split d (Vcall m d),
    held_congr (T d) (S := tabs) (V := Vcall m d) (V' := Vin m d) fun b hb =>
      Function.update_of_ne (fun e => by subst e; exact absurd hb (by decide)) _ _,
    held_congr (T d) (S := tcRefs τ sig \ inRefs) (V := Vcall m d) (V' := Vin m d) fun b hb =>
      Function.update_of_ne (fun e => by subst e; exact (Finset.mem_sdiff.mp hb).2 (Finset.mem_insert_self _ _)) _ _]
  unfold Vcall
  rw [Function.update_self]

theorem st0_eq (d : Dev nD) :
    (bigSep Finset.univ fun c : Fin ((K (F := F)).nCore 0) => (P m).st 0 d c)
      = iprop((bigSep Finset.univ fun c : Fin 2 => bigSep Finset.univ fun i : Fin 16 => tabsAt m d (qT c.val i.val))
          ∗ bigSep Finset.univ fun c : Fin 2 => bigSep Finset.univ fun i : Fin 16 => oRowsPts d (wid c.val i.val) (m (oLoc d))) := by
  show (bigSep Finset.univ fun c : Fin 2 => bigSep Finset.univ fun i : Fin 16 => goT m d c.val i.val) = _
  unfold goT
  rw [bigSep_congr fun (c : Fin 2) _ => bigSep_sep' Finset.univ (fun i : Fin 16 => tabsAt m d (qT c.val i.val)) (fun i : Fin 16 => (oRowsPts d (wid c.val i.val) (m (oLoc d)) : sProp 𝕄)),
    bigSep_sep']

theorem dn0_eq (d : Dev nD) :
    (bigSep Finset.univ fun c : Fin ((K (F := F)).nCore 0) => (P m).dn 0 d c)
      = iprop((bigSep Finset.univ fun c : Fin 2 => bigSep Finset.univ fun i : Fin 16 => tabsAt m d (qT c.val i.val))
          ∗ bigSep Finset.univ fun c : Fin 2 => bigSep Finset.univ fun i : Fin 16 => oRowsPts d (wid c.val i.val) (outBuf m d)) := by
  show (bigSep Finset.univ fun c : Fin 2 => bigSep Finset.univ fun i : Fin 16 => tdT m d c.val i.val) = _
  unfold tdT
  rw [bigSep_congr fun (c : Fin 2) _ => bigSep_sep' Finset.univ (fun i : Fin 16 => tabsAt m d (qT c.val i.val)) (fun i : Fin 16 => (oRowsPts d (wid c.val i.val) (outBuf m d) : sProp 𝕄)),
    bigSep_sep']

/-- What @main leaves the claim: every array of the TensorCore, at the values after the last transpose. -/
abbrev FIN (d : Dev nD) : sProp 𝕄 := held (T d) (tcRefs τ sig) (Vout m d)

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the 27 transposes
  iapply (wp_seq 𝒱 none Set.univ d (tcRefs τ sig) _ (opsIn (F := F)) opsIn_sub opsIn_fresh (launchContents m d)) $$ [Hb Hheld]
  · isplitl [Hb]; · iexact Hb
    iexact Hheld
  iintro ⟨Hb, Hheld⟩
  -- the call's arrays out of all: the inputs as 32 shares each, the output by the tiles' rows
  ihave Hheld := (Entails.of_eq (show (held (d.tc : Thread nD τ) (tcRefs τ sig) (after (opsIn (F := F)) (launchContents m d)) : sProp 𝕄)
      = held (T d) (tcRefs τ sig) (Vin m d) from rfl)) $$ Hheld
  ihave H := (Entails.of_eq (held_all_split (F := F) d (Vin m d))) $$ Hheld
  icases H with ⟨⟨Ho, Htabs⟩, Hrest⟩
  ihave Ht := (Entails.of_eq (tabs_split (F := F) d (Vin m d))) $$ Htabs
  icases Ht with ⟨HA, HB, HC⟩
  ihave Ho' := (Entails.of_eq ((congrArg (fun f => (oLoc d ↦{fullShare} f : sProp 𝕄)) (Vin_o m d)).trans (o_split (F := F) d (m (oLoc d))))) $$ Ho
  rw [wp_bind]
  iapply ((K (F := F)).wp_run (D (F := F)) 𝒱 (EH := EH) (P := P m) κ d 0) $$ [Hst HC Ho' HA HB Hrest Hb]
  isplitr; · iexact Hctx
  isplitl [Hst]; · iexact Hst
  isplitl [HC Ho']
  · rw [st0_eq]
    isplitl [HC]; · iexact HC
    iexact Ho'
  iintro ⟨Hst, Hdn⟩
  ihave Hdn' := (Entails.of_eq (dn0_eq m d)) $$ Hdn
  icases Hdn' with ⟨HC, Ho'⟩
  -- the shares and the rows joined again: every array, the output at the specification's value
  ihave Htabs := (Entails.of_eq (tabs_split (F := F) d (Vin m d)).symm) $$ [HA HB HC]
  · isplitl [HA]; · iexact HA
    isplitl [HB]; · iexact HB
    iexact HC
  ihave Ho := (Entails.of_eq (o_split (F := F) d (outBuf m d)).symm) $$ Ho'
  ihave Hheld := (Entails.of_eq (held_call m d).symm) $$ [Htabs Ho Hrest]
  · isplitl [Ho Htabs]
    · isplitl [Ho]; · iexact Ho
      iexact Htabs
    iexact Hrest
  -- the last transpose
  rw [wp_bind]
  iapply (wp_hlo_within 𝒱 (SparseCore.T d) none Set.univ (op := opR (F := F)) (S := tcRefs τ sig) (unary_bufs_sub _ _ _ _ _) (V := Vcall m d)) $$ [Hb Hheld]
  · isplitl [Hb]; · iexact Hb
    iexact Hheld
  iintro ⟨Hb, Hheld⟩
  rw [wp_ret]; imodintro
  rw [wp_pure]; imodintro
  isplitl [Hst]; · iexact Hst
  iexact Hheld

/-! ## The final memory -/

def fq (d : Dev nD) (s' : Phys nD τ sig (Elt F)) : Prop := ∀ b : Ref sig .tc, s'.mem.mem ((SparseCore.T d).loc b) = Vout m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-! ## The program's run -/

/-- Every array of every device at the end: the value after the last transpose. -/
def QC : PUnit × MemSt nD τ sig (Elt F) → Prop :=
  fun r => ∀ (d : Dev nD) (b : Ref sig .tc), r.2.mem ((SparseCore.T d).loc b) = Vout m d (Proc.devRef .tc b)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The values the run's post names -/

/-- The transposed index array at the call is the transpose of the argument. -/
theorem Vin_x (d : Dev nD) :
    Vin m d x' = transpose S26x16384 [1, 0] (m ((SparseCore.T d).loc main_arg0)) transposes_S16384x26_S26x16384_1_0 := by
  unfold Vin
  after_results_simp

/-- Under the range hypothesis every index word the tiles read names a table row. -/
theorem xT_lt (h : PreOK m) (d : Dev nD) (j : S26x16384.Idx) : (xT m d j).toNat < 100000 := by
  unfold xT; rw [Vin_x]; exact h d _

/-- The result array at the end: the transpose of the call's output. -/
theorem Vout_r (d : Dev nD) :
    Vout m d r' = transpose S16384x936 [1, 0] (outBuf m d) transposes_S936x16384_S16384x936_1_0 := by
  unfold Vout Vcall
  rw [StableHlo.unary_result, Function.update_self]

/-- Any array but the call's output and the result is, at the end, as it was at the call. -/
theorem Vout_of_ne (d : Dev nD) {b : Ref sig .tc} (h28 : b ≠ main_v28) (h27 : b ≠ main_v27) :
    Vout m d (Proc.devRef .tc b) = Vin m d (Proc.devRef .tc b) := by
  unfold Vout Vcall
  rw [StableHlo.unary_result_ne _ _ _ _ _ _ h28, Function.update_of_ne (StableHlo.devRef_ne_of_ne h27)]

/-- The arrays the transposes write. -/
abbrev tabRefs : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26]

theorem opsIn_writes : (opsIn (F := F)).Forall fun op => op.writes ⊆ (tabRefs.map (Proc.devRef (τ := τ) .tc)).toFinset := by
  simp only [List.Forall, StableHlo.unary_writes, Finset.singleton_subset_iff, List.mem_toFinset]
  iterate 26 (refine ⟨List.mem_map_of_mem (by decide), ?_⟩)
  exact List.mem_map_of_mem (by decide)

/-- An array none of the 27 transposes writes is, at the call, as launched. -/
theorem Vin_of_not_mem (d : Dev nD) {b : Ref sig .tc} (hb : b ∉ tabRefs) :
    Vin m d (Proc.devRef .tc b) = m ((SparseCore.T d).loc b) :=
  StableHlo.after_of_writes_sub (opsIn (F := F)) (launchContents m d) (W := tabRefs) opsIn_writes hb

/-- Every argument array is unchanged at the end. -/
theorem Vout_arg (d : Dev nD) {b : Ref sig .tc} (h28 : b ≠ main_v28) (h27 : b ≠ main_v27) (hb : b ∉ tabRefs) :
    Vout m d (Proc.devRef .tc b) = m ((SparseCore.T d).loc b) :=
  (Vout_of_ne m d h28 h27).trans (Vin_of_not_mem m d hb)

end Cert.Proof.Kernel

end
-- ==== Proof.ClaimsBits.lean ====
/-
  From the run's post — every array of every device at the value after the last transpose — to the claims' posts: the
  result array is the specification's value of the arguments, in the reference's layout, and every argument array is
  unchanged.
-/
import proofs.«204037_g66941360275737_cont_sun_c4_657_24_alg».proof.Proof.LaunchBits
import proofs.«204037_g66941360275737_cont_sun_c4_657_24_alg».proof.Proof.Bridge
import proofs.«204037_g66941360275737_cont_sun_c4_657_24_alg».proof.Defs
import proofs.«204037_g66941360275737_cont_sun_c4_657_24_alg».proof.Proof.Gen.Pre_input_domain

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.StableHlo (after launchContents)

variable {F : FTy → Type}
variable (m : (ℓ : Loc nD τ sig) → Buf (Elt F) ℓ) (ρ : Dev nD → PrngReg)
variable [FloatOps F]

/-! ## The result in the reference's layout -/

/-- The 26 argument tables as launched, as a function of the field. -/
def tA (c : Dev nD) : Fin 26 → S100000x36.Idx → Elt F .f32
  | ⟨0, _⟩ => m ((SparseCore.T c).loc main_arg1)
  | ⟨1, _⟩ => m ((SparseCore.T c).loc main_arg2)
  | ⟨2, _⟩ => m ((SparseCore.T c).loc main_arg3)
  | ⟨3, _⟩ => m ((SparseCore.T c).loc main_arg4)
  | ⟨4, _⟩ => m ((SparseCore.T c).loc main_arg5)
  | ⟨5, _⟩ => m ((SparseCore.T c).loc main_arg6)
  | ⟨6, _⟩ => m ((SparseCore.T c).loc main_arg7)
  | ⟨7, _⟩ => m ((SparseCore.T c).loc main_arg8)
  | ⟨8, _⟩ => m ((SparseCore.T c).loc main_arg9)
  | ⟨9, _⟩ => m ((SparseCore.T c).loc main_arg10)
  | ⟨10, _⟩ => m ((SparseCore.T c).loc main_arg11)
  | ⟨11, _⟩ => m ((SparseCore.T c).loc main_arg12)
  | ⟨12, _⟩ => m ((SparseCore.T c).loc main_arg13)
  | ⟨13, _⟩ => m ((SparseCore.T c).loc main_arg14)
  | ⟨14, _⟩ => m ((SparseCore.T c).loc main_arg15)
  | ⟨15, _⟩ => m ((SparseCore.T c).loc main_arg16)
  | ⟨16, _⟩ => m ((SparseCore.T c).loc main_arg17)
  | ⟨17, _⟩ => m ((SparseCore.T c).loc main_arg18)
  | ⟨18, _⟩ => m ((SparseCore.T c).loc main_arg19)
  | ⟨19, _⟩ => m ((SparseCore.T c).loc main_arg20)
  | ⟨20, _⟩ => m ((SparseCore.T c).loc main_arg21)
  | ⟨21, _⟩ => m ((SparseCore.T c).loc main_arg22)
  | ⟨22, _⟩ => m ((SparseCore.T c).loc main_arg23)
  | ⟨23, _⟩ => m ((SparseCore.T c).loc main_arg24)
  | ⟨24, _⟩ => m ((SparseCore.T c).loc main_arg25)
  | ⟨25, _⟩ => m ((SparseCore.T c).loc main_arg26)
  | ⟨_ + 26, h⟩ => absurd h (Nat.not_lt.2 (Nat.le_add_left _ _))

/-- Every transposed table at the call is the transpose of its argument. -/
theorem tT_eq (c : Dev nD) (f : Fin 26) :
    tT m c f = transpose S36x100000 [1, 0] (tA m c f) transposes_S100000x36_S36x100000_1_0 := by
  fin_cases f <;> (simp only [tT, tA]; unfold Vin; after_results_simp)

/-- The specification's value of the launch contents, in the reference's layout. -/
def resV (c : Dev nD) : Buf (Elt F) (rLoc c) := Cert.Spec.out (m ((SparseCore.T c).loc main_arg0)) (tA m c)

/-- The result array at the end is the specification's value of the arguments. -/
theorem Vout_r_eq (c : Dev nD) : Vout m c r' = resV m c := by
  rw [Vout_r]; unfold outBuf resV
  rw [show xT m c = transpose S26x16384 [1, 0] (m ((SparseCore.T c).loc main_arg0)) transposes_S16384x26_S26x16384_1_0 from Vin_x m c,
    show tT m c = (fun f => transpose S36x100000 [1, 0] (tA m c f) transposes_S100000x36_S36x100000_1_0) from funext (tT_eq m c)]
  exact Cert.Spec.transpose_outT_transpose _ _ _ _ _

/-! ## The claims' posts from the run's -/

/-- The run's post names the result: the specification's value of the arguments. -/
theorem QC_res {r : PUnit × MemSt nD τ sig (Elt F)} (h : QC m r) (c : Dev nD) :
    r.2.mem ((c.tc : Thread nD τ).loc main_v28) = resV m c :=
  (h c main_v28).trans (Vout_r_eq m c)

/-- The run's post leaves every argument array unchanged. -/
theorem QC_arg {r : PUnit × MemSt nD τ sig (Elt F)} (h : QC m r) (c : Dev nD) (b : Ref sig .tc)
    (h28 : b ≠ main_v28) (h27 : b ≠ main_v27) (hb : b ∉ tabRefs) :
    r.2.mem ((c.tc : Thread nD τ).loc b) = m ((c.tc : Thread nD τ).loc b) :=
  (h c b).trans (Vout_arg m c h28 h27 hb)

omit m ρ F [FloatOps F] in
/-- The frame: from the precondition's index range and the tile's task proved under it. -/
theorem frame_K (hpre : ∀ m : (ℓ : Loc nD τ sig) → Buf (Elt Bits) ℓ, Cert.Pre_Kernel m → PreOK m)
    (htile : ∀ m : (ℓ : Loc nD τ sig) → Buf (Elt Bits) ℓ, PreOK m → (K (F := Bits)).TileObl (D (F := Bits)) 𝒱 (P m) v₀ 0) :
    Cert.frame_Kernel := by
  intro m g hp
  refine (θ_run _ _ _).mono (fun r h c => ?_) (run_main m g (htile m (hpre m hp)))
  iterate 26 (refine ⟨QC_arg m h c _ (by decide) (by decide) (by decide), ?_⟩)
  exact QC_arg m h c _ (by decide) (by decide) (by decide)

end Cert.Proof.Kernel

end
-- ==== Proof.BodyOblBase.lean ====
/-
  From the tile's run to the launch theorem's obligation for a tile.

  The launch theorem asks, of every tile of the call, that the label table's row for a vector subcore, entered with
  the task's resources and the subcore's scoped storage, ends with the task's results. The row is the kernel's
  function applied at the tile's coordinates to the whole arrays and the subcore's scratch; so the obligation follows
  from a statement of that call's run in plain form, the handshake's empty extra share dropped on the way in and the
  recorded waits' clause weakened on the way out.
-/
import proofs.«204037_g66941360275737_cont_sun_c4_657_24_alg».proof.Proof.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The kernel's function at grid point `L`, on the whole arrays, the subcore's scratch and its scoped semaphores:
    what the body table's row for a vector subcore runs. -/
abbrev tileCall (L : grid0.Coords) : Prog (TpuEff nD τ sig (Elt F) Λ₀ (.scVector (cV L) (jV L))) PUnit :=
  cc0__encode L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207

theorem defs₀_vector (c : Fin τ.nSC) (s : Fin τ.nSub) :
    defs₀ (F := F) (.scVector c s) 0 ()
      = SparseCore.onTile hcore0 hsub0 (fun c s => tileCall (F := F) (coordsV c s)) ⟨⟩ c s := rfl

variable (m : (ℓ : Loc nD τ sig) → Buf (Elt F) ℓ)

/-- THE TILE'S RUN, in plain form: from the task's resources and the subcore's scoped storage the call ends with the
    task's results, the storage back, nothing new owed, and only local waits recorded; stated of any program equal
    to the call. -/
def TileRun : Prop :=
  ∀ (d : Dev nD) (L : grid0.Coords) (O : CellTallies nD τ sig (HIx 1)) (W : Waits sig (HIx 1)), (∀ g, O g none = 0) →
    ∀ (p : Prog (TpuEff nD τ sig (Elt F) Λ₀ (.scVector (cV L) (jV L))) PUnit), p = tileCall (F := F) L →
    (iprop(levAts (K (F := F)).L (K (F := F)).lev ∗ goT m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ p
          fun _ => iprop(tdT m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The handshake's extra share is empty here: it is dropped. -/
theorem obl_pre {A B C E G : sProp 𝕄} : iprop(A ∗ emp ∗ B ∗ C ∗ E ∗ G) ⊢ iprop(A ∗ B ∗ C ∗ E ∗ G) := by
  iintro ⟨HA, _, HB, HC, HE, HG⟩
  isplitl [HA]; · iexact HA
  isplitl [HB]; · iexact HB
  isplitl [HC]; · iexact HC
  isplitl [HE]; · iexact HE
  iexact HG

/-- THE OBLIGATION FOR A TILE, from the tile's run. -/
theorem tileObl_of_run (hrun : TileRun (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  generalize hp : tileCall (F := F) (coordsV ⟨((K (F := F)).core 0 c).val, hc.1⟩ ⟨((K (F := F)).sub 0 i).val, hc.2⟩) = p
  exact obl_pre.trans ((hrun d (coordsV ⟨((K (F := F)).core 0 c).val, hc.1⟩ ⟨((K (F := F)).sub 0 i).val, hc.2⟩) O W hO p hp.symm).trans
    (wp_mono frame _ _ fun _ => obl_post))

end Cert.Proof.KernelIdeal

end
-- ==== Proof.BodyScoped.lean ====
import proofs.«204037_g66941360275737_cont_sun_c4_657_24_alg».proof.KernelIdeal.P03
import Idealize.ShloMosaic.Lib.ValueIdx
import Idealize.ShloMosaic.Lib.SparseCore.Launch
import Idealize.ShloMosaic.Lib.Tactic

/-!
# A tile's scoped storage, by name

A tile's own buffers are its four scratch buffers (the row buffer, the two index buffers, the output buffer) and
the rest; its own semaphore cells are those whose semaphore is scoped to it.
-/

noncomputable section

namespace Cert.Proof.BodyScoped

open Cert.KernelIdeal
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

variable (d : Dev nD) (c : Fin τ.nSC) (s : Fin τ.nSub)

/-- The tile's own buffers other than its four scratch buffers, each whole at some contents. -/
def restBufs : sProp 𝕄 :=
  bigSep (((((ownRefs (τ := τ) (sig := sig) (.scVector c s)).erase ((Proc.scVector c s).devRef cc0_scratch0)).erase
      ((Proc.scVector c s).devRef cc0_scratch1)).erase ((Proc.scVector c s).devRef cc0_scratch2)).erase ((Proc.scVector c s).devRef cc0_scratch3))
    fun b => iprop(∃ f, ((d, b) : Loc nD τ sig) ↦{fullShare} f)

omit [FloatOps F] in
/-- The four scratch buffers are among the tile's own: they are them, each at some contents, and the rest. -/
theorem ownBufs_scratch :
    (ownBufs (V d c s) : sProp 𝕄)
      = iprop(((∃ f, (V d c s).loc cc0_scratch0 ↦{fullShare} f) ∗ (∃ f, (V d c s).loc cc0_scratch1 ↦{fullShare} f)
          ∗ (∃ f, (V d c s).loc cc0_scratch2 ↦{fullShare} f) ∗ (∃ f, (V d c s).loc cc0_scratch3 ↦{fullShare} f)) ∗ restBufs (F := F) d c s) := by
  unfold SparseCore.Cfg.ownBufs restBufs
  refine (SparseCore.bigSep_erase' (SparseCore.Cfg.mem_ownRefs_of_owner (p := Proc.scVector c s)
    (b := (Proc.scVector c s).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector c s) (b := (Proc.scVector c s).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector c s) (b := (Proc.scVector c s).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector c s) (b := (Proc.scVector c s).devRef cc0_scratch3) rfl⟩⟩⟩)]
  have assoc : ∀ P Q R : sProp 𝕄, iprop((P ∗ Q) ∗ R) = iprop(P ∗ (Q ∗ R)) :=
    fun _ _ _ => Idealize.SL.BI.Entails.antisymm Idealize.SL.BI.sep_assoc Idealize.SL.BI.sep_assoc'
  simp only [assoc]

omit [FloatOps F] in
/-- A semaphore scoped to vector subcores is among the tile's own cells. -/
theorem sem_mem' (sm : SemLoc sig) (h : sm.isScoped .scVector = true) : ((V d c s, sm) : GSem nD τ sig) ∈ ownCells (V d c s) :=
  (mem_ownCells (g := ((V d c s, sm) : GSem nD τ sig))).mpr ⟨rfl, h⟩

omit [FloatOps F] in
/-- Cells of one thread at different semaphores are different. -/
theorem sem_ne' (a b : SemLoc sig) (h : a ≠ b) : ((V d c s, a) : GSem nD τ sig) ≠ (V d c s, b) :=
  fun e => h (Prod.mk.inj e).2

end Cert.Proof.BodyScoped
-- ==== Proof.BodyWrap.lean ====
/-
  From the tile's flattened run to the tile's run as the launch asks it.

  The flattened run takes the 27 read shares one by one, the four scratch buffers at some contents, the tile's rows of
  the output array, the tile's scoped semaphores at zero and evidence that its waits are allowed; it gives all of them
  back, the rows at the specification's values. The launch hands a tile the same things folded: the shares as a family
  over the input arrays, the scratch buffers inside the tile's scoped storage, the levels of the handshakes (from which
  the wait evidence follows). This file unfolds the one into the other, carries the rest of the scoped storage across
  the run, and reads the rows' values as the specification's function of the arrays the call starts from.
-/
import proofs.«204037_g66941360275737_cont_sun_c4_657_24_alg».proof.Proof.BodyOblBase
import proofs.«204037_g66941360275737_cont_sun_c4_657_24_alg».proof.Proof.BodyScoped
import proofs.«204037_g66941360275737_cont_sun_c4_657_24_alg».proof.Proof.Launch

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

set_option maxHeartbeats 4000000 in
/-- THE FLATTENED RUN of the tile at grid point `L` of device `d`, at the launch's values. -/
def FlatRun : Prop :=
  ∀ (d : Dev nD) (L : grid0.Coords) (O : CellTallies nD τ sig (HIx 1)) (W : Waits sig (HIx 1))
    (p : Prog (TpuEff nD τ sig (Elt F) Λ₀ (.scVector (cV L) (jV L))) PUnit), p = tileCall (F := F) L →
    (iprop(Transfers.MayWaits (V d (cV L) (jV L)) (none : HIx 1) O
        ∗ ((xV).view.loc (V d (cV L) (jV L)) ↦{qT (L 0).val (L 1).val} xT m d) ∗ (((Memref.whole main_v1_scv : Memref sig .scVector .hbm S36x100000 .f32)).view.loc (V d (cV L) (jV L)) ↦{qT (L 0).val (L 1).val} (tT m d ⟨0, by decide⟩)) ∗ (((Memref.whole main_v2_scv : Memref sig .scVector .hbm S36x100000 .f32)).view.loc (V d (cV L) (jV L)) ↦{qT (L 0).val (L 1).val} (tT m d ⟨1, by decide⟩)) ∗ (((Memref.whole main_v3_scv : Memref sig .scVector .hbm S36x100000 .f32)).view.loc (V d (cV L) (jV L)) ↦{qT (L 0).val (L 1).val} (tT m d ⟨2, by decide⟩)) ∗ (((Memref.whole main_v4_scv : Memref sig .scVector .hbm S36x100000 .f32)).view.loc (V d (cV L) (jV L)) ↦{qT (L 0).val (L 1).val} (tT m d ⟨3, by decide⟩)) ∗ (((Memref.whole main_v5_scv : Memref sig .scVector .hbm S36x100000 .f32)).view.loc (V d (cV L) (jV L)) ↦{qT (L 0).val (L 1).val} (tT m d ⟨4, by decide⟩)) ∗ (((Memref.whole main_v6_scv : Memref sig .scVector .hbm S36x100000 .f32)).view.loc (V d (cV L) (jV L)) ↦{qT (L 0).val (L 1).val} (tT m d ⟨5, by decide⟩)) ∗ (((Memref.whole main_v7_scv : Memref sig .scVector .hbm S36x100000 .f32)).view.loc (V d (cV L) (jV L)) ↦{qT (L 0).val (L 1).val} (tT m d ⟨6, by decide⟩)) ∗ (((Memref.whole main_v8_scv : Memref sig .scVector .hbm S36x100000 .f32)).view.loc (V d (cV L) (jV L)) ↦{qT (L 0).val (L 1).val} (tT m d ⟨7, by decide⟩)) ∗ (((Memref.whole main_v9_scv : Memref sig .scVector .hbm S36x100000 .f32)).view.loc (V d (cV L) (jV L)) ↦{qT (L 0).val (L 1).val} (tT m d ⟨8, by decide⟩)) ∗ (((Memref.whole main_v10_scv : Memref sig .scVector .hbm S36x100000 .f32)).view.loc (V d (cV L) (jV L)) ↦{qT (L 0).val (L 1).val} (tT m d ⟨9, by decide⟩)) ∗ (((Memref.whole main_v11_scv : Memref sig .scVector .hbm S36x100000 .f32)).view.loc (V d (cV L) (jV L)) ↦{qT (L 0).val (L 1).val} (tT m d ⟨10, by decide⟩)) ∗ (((Memref.whole main_v12_scv : Memref sig .scVector .hbm S36x100000 .f32)).view.loc (V d (cV L) (jV L)) ↦{qT (L 0).val (L 1).val} (tT m d ⟨11, by decide⟩)) ∗ (((Memref.whole main_v13_scv : Memref sig .scVector .hbm S36x100000 .f32)).view.loc (V d (cV L) (jV L)) ↦{qT (L 0).val (L 1).val} (tT m d ⟨12, by decide⟩)) ∗ (((Memref.whole main_v14_scv : Memref sig .scVector .hbm S36x100000 .f32)).view.loc (V d (cV L) (jV L)) ↦{qT (L 0).val (L 1).val} (tT m d ⟨13, by decide⟩)) ∗ (((Memref.whole main_v15_scv : Memref sig .scVector .hbm S36x100000 .f32)).view.loc (V d (cV L) (jV L)) ↦{qT (L 0).val (L 1).val} (tT m d ⟨14, by decide⟩)) ∗ (((Memref.whole main_v16_scv : Memref sig .scVector .hbm S36x100000 .f32)).view.loc (V d (cV L) (jV L)) ↦{qT (L 0).val (L 1).val} (tT m d ⟨15, by decide⟩)) ∗ (((Memref.whole main_v17_scv : Memref sig .scVector .hbm S36x100000 .f32)).view.loc (V d (cV L) (jV L)) ↦{qT (L 0).val (L 1).val} (tT m d ⟨16, by decide⟩)) ∗ (((Memref.whole main_v18_scv : Memref sig .scVector .hbm S36x100000 .f32)).view.loc (V d (cV L) (jV L)) ↦{qT (L 0).val (L 1).val} (tT m d ⟨17, by decide⟩)) ∗ (((Memref.whole main_v19_scv : Memref sig .scVector .hbm S36x100000 .f32)).view.loc (V d (cV L) (jV L)) ↦{qT (L 0).val (L 1).val} (tT m d ⟨18, by decide⟩)) ∗ (((Memref.whole main_v20_scv : Memref sig .scVector .hbm S36x100000 .f32)).view.loc (V d (cV L) (jV L)) ↦{qT (L 0).val (L 1).val} (tT m d ⟨19, by decide⟩)) ∗ (((Memref.whole main_v21_scv : Memref sig .scVector .hbm S36x100000 .f32)).view.loc (V d (cV L) (jV L)) ↦{qT (L 0).val (L 1).val} (tT m d ⟨20, by decide⟩)) ∗ (((Memref.whole main_v22_scv : Memref sig .scVector .hbm S36x100000 .f32)).view.loc (V d (cV L) (jV L)) ↦{qT (L 0).val (L 1).val} (tT m d ⟨21, by decide⟩)) ∗ (((Memref.whole main_v23_scv : Memref sig .scVector .hbm S36x100000 .f32)).view.loc (V d (cV L) (jV L)) ↦{qT (L 0).val (L 1).val} (tT m d ⟨22, by decide⟩)) ∗ (((Memref.whole main_v24_scv : Memref sig .scVector .hbm S36x100000 .f32)).view.loc (V d (cV L) (jV L)) ↦{qT (L 0).val (L 1).val} (tT m d ⟨23, by decide⟩)) ∗ (((Memref.whole main_v25_scv : Memref sig .scVector .hbm S36x100000 .f32)).view.loc (V d (cV L) (jV L)) ↦{qT (L 0).val (L 1).val} (tT m d ⟨24, by decide⟩)) ∗ (((Memref.whole main_v26_scv : Memref sig .scVector .hbm S36x100000 .f32)).view.loc (V d (cV L) (jV L)) ↦{qT (L 0).val (L 1).val} (tT m d ⟨25, by decide⟩))
        ∗ (∃ f, ((sRow).view.loc (V d (cV L) (jV L)) ↦{fullShare} f)) ∗ (∃ f, ((sOch).view.loc (V d (cV L) (jV L)) ↦{fullShare} f)) ∗ (∃ f, ((sIa).view.loc (V d (cV L) (jV L)) ↦{fullShare} f)) ∗ (∃ f, ((sIb).view.loc (V d (cV L) (jV L)) ↦{fullShare} f))
        ∗ ((oV).view.loc (V d (cV L) (jV L)) ↦[oRows (wid (L 0).val (L 1).val)]{fullShare} m (oLoc d))
        ∗ SparseCore.Cfg.ownSems0 (V d (cV L) (jV L))
        ∗ owes (V d (cV L) (jV L)) O W) : sProp 𝕄)
      ⊢ wp frame (wpE (defs₀ (F := F)) 𝒱₀ (V d (cV L) (jV L)) none) Set.univ p
          fun _ => iprop(Transfers.MayWaits (V d (cV L) (jV L)) (none : HIx 1) O
        ∗ ((xV).view.loc (V d (cV L) (jV L)) ↦{qT (L 0).val (L 1).val} xT m d) ∗ (((Memref.whole main_v1_scv : Memref sig .scVector .hbm S36x100000 .f32)).view.loc (V d (cV L) (jV L)) ↦{qT (L 0).val (L 1).val} (tT m d ⟨0, by decide⟩)) ∗ (((Memref.whole main_v2_scv : Memref sig .scVector .hbm S36x100000 .f32)).view.loc (V d (cV L) (jV L)) ↦{qT (L 0).val (L 1).val} (tT m d ⟨1, by decide⟩)) ∗ (((Memref.whole main_v3_scv : Memref sig .scVector .hbm S36x100000 .f32)).view.loc (V d (cV L) (jV L)) ↦{qT (L 0).val (L 1).val} (tT m d ⟨2, by decide⟩)) ∗ (((Memref.whole main_v4_scv : Memref sig .scVector .hbm S36x100000 .f32)).view.loc (V d (cV L) (jV L)) ↦{qT (L 0).val (L 1).val} (tT m d ⟨3, by decide⟩)) ∗ (((Memref.whole main_v5_scv : Memref sig .scVector .hbm S36x100000 .f32)).view.loc (V d (cV L) (jV L)) ↦{qT (L 0).val (L 1).val} (tT m d ⟨4, by decide⟩)) ∗ (((Memref.whole main_v6_scv : Memref sig .scVector .hbm S36x100000 .f32)).view.loc (V d (cV L) (jV L)) ↦{qT (L 0).val (L 1).val} (tT m d ⟨5, by decide⟩)) ∗ (((Memref.whole main_v7_scv : Memref sig .scVector .hbm S36x100000 .f32)).view.loc (V d (cV L) (jV L)) ↦{qT (L 0).val (L 1).val} (tT m d ⟨6, by decide⟩)) ∗ (((Memref.whole main_v8_scv : Memref sig .scVector .hbm S36x100000 .f32)).view.loc (V d (cV L) (jV L)) ↦{qT (L 0).val (L 1).val} (tT m d ⟨7, by decide⟩)) ∗ (((Memref.whole main_v9_scv : Memref sig .scVector .hbm S36x100000 .f32)).view.loc (V d (cV L) (jV L)) ↦{qT (L 0).val (L 1).val} (tT m d ⟨8, by decide⟩)) ∗ (((Memref.whole main_v10_scv : Memref sig .scVector .hbm S36x100000 .f32)).view.loc (V d (cV L) (jV L)) ↦{qT (L 0).val (L 1).val} (tT m d ⟨9, by decide⟩)) ∗ (((Memref.whole main_v11_scv : Memref sig .scVector .hbm S36x100000 .f32)).view.loc (V d (cV L) (jV L)) ↦{qT (L 0).val (L 1).val} (tT m d ⟨10, by decide⟩)) ∗ (((Memref.whole main_v12_scv : Memref sig .scVector .hbm S36x100000 .f32)).view.loc (V d (cV L) (jV L)) ↦{qT (L 0).val (L 1).val} (tT m d ⟨11, by decide⟩)) ∗ (((Memref.whole main_v13_scv : Memref sig .scVector .hbm S36x100000 .f32)).view.loc (V d (cV L) (jV L)) ↦{qT (L 0).val (L 1).val} (tT m d ⟨12, by decide⟩)) ∗ (((Memref.whole main_v14_scv : Memref sig .scVector .hbm S36x100000 .f32)).view.loc (V d (cV L) (jV L)) ↦{qT (L 0).val (L 1).val} (tT m d ⟨13, by decide⟩)) ∗ (((Memref.whole main_v15_scv : Memref sig .scVector .hbm S36x100000 .f32)).view.loc (V d (cV L) (jV L)) ↦{qT (L 0).val (L 1).val} (tT m d ⟨14, by decide⟩)) ∗ (((Memref.whole main_v16_scv : Memref sig .scVector .hbm S36x100000 .f32)).view.loc (V d (cV L) (jV L)) ↦{qT (L 0).val (L 1).val} (tT m d ⟨15, by decide⟩)) ∗ (((Memref.whole main_v17_scv : Memref sig .scVector .hbm S36x100000 .f32)).view.loc (V d (cV L) (jV L)) ↦{qT (L 0).val (L 1).val} (tT m d ⟨16, by decide⟩)) ∗ (((Memref.whole main_v18_scv : Memref sig .scVector .hbm S36x100000 .f32)).view.loc (V d (cV L) (jV L)) ↦{qT (L 0).val (L 1).val} (tT m d ⟨17, by decide⟩)) ∗ (((Memref.whole main_v19_scv : Memref sig .scVector .hbm S36x100000 .f32)).view.loc (V d (cV L) (jV L)) ↦{qT (L 0).val (L 1).val} (tT m d ⟨18, by decide⟩)) ∗ (((Memref.whole main_v20_scv : Memref sig .scVector .hbm S36x100000 .f32)).view.loc (V d (cV L) (jV L)) ↦{qT (L 0).val (L 1).val} (tT m d ⟨19, by decide⟩)) ∗ (((Memref.whole main_v21_scv : Memref sig .scVector .hbm S36x100000 .f32)).view.loc (V d (cV L) (jV L)) ↦{qT (L 0).val (L 1).val} (tT m d ⟨20, by decide⟩)) ∗ (((Memref.whole main_v22_scv : Memref sig .scVector .hbm S36x100000 .f32)).view.loc (V d (cV L) (jV L)) ↦{qT (L 0).val (L 1).val} (tT m d ⟨21, by decide⟩)) ∗ (((Memref.whole main_v23_scv : Memref sig .scVector .hbm S36x100000 .f32)).view.loc (V d (cV L) (jV L)) ↦{qT (L 0).val (L 1).val} (tT m d ⟨22, by decide⟩)) ∗ (((Memref.whole main_v24_scv : Memref sig .scVector .hbm S36x100000 .f32)).view.loc (V d (cV L) (jV L)) ↦{qT (L 0).val (L 1).val} (tT m d ⟨23, by decide⟩)) ∗ (((Memref.whole main_v25_scv : Memref sig .scVector .hbm S36x100000 .f32)).view.loc (V d (cV L) (jV L)) ↦{qT (L 0).val (L 1).val} (tT m d ⟨24, by decide⟩)) ∗ (((Memref.whole main_v26_scv : Memref sig .scVector .hbm S36x100000 .f32)).view.loc (V d (cV L) (jV L)) ↦{qT (L 0).val (L 1).val} (tT m d ⟨25, by decide⟩))
        ∗ (∃ f, ((sRow).view.loc (V d (cV L) (jV L)) ↦{fullShare} f)) ∗ (∃ f, ((sOch).view.loc (V d (cV L) (jV L)) ↦{fullShare} f)) ∗ (∃ f, ((sIa).view.loc (V d (cV L) (jV L)) ↦{fullShare} f)) ∗ (∃ f, ((sIb).view.loc (V d (cV L) (jV L)) ↦{fullShare} f))
        ∗ (∃ g, ((oV).view.loc (V d (cV L) (jV L)) ↦[oRows (wid (L 0).val (L 1).val)]{fullShare} g)
            ∗ ⌜∀ x ∈ oRows (wid (L 0).val (L 1).val), g x = Cert.Spec.outT (xT m d) (tT m d) x⌝)
        ∗ SparseCore.Cfg.ownSems0 (V d (cV L) (jV L))
        ∗ ∃ W', ⌜∀ p ∈ W', p ∈ W ∨ p.2 = none⌝ ∗ owes (V d (cV L) (jV L)) O W')

set_option maxHeartbeats 4000000 in
/-- THE TILE'S RUN from the flattened one. -/
theorem tileRun_of_flat (hF : (K (F := F)).Facts) (hflat : FlatRun (F := F) m) : TileRun (F := F) m := by
  intro d L O W hO p hp
  rw [(K (F := F)).scopedBufs_V hF d (cV L) (jV L), SparseCore.Cfg.scopedSems0_V (Val := Elt F) d (cV L) (jV L),
    Cert.Proof.BodyScoped.ownBufs_scratch (F := F) d (cV L) (jV L)]
  unfold goT tdT tabsAt
  rw [tabs_expand]
  have hmw : (levAts (K (F := F)).L (K (F := F)).lev : sProp 𝕄) ⊢ Transfers.MayWaits (V d (cV L) (jV L)) (none : HIx 1) O :=
    (K (F := F)).mayWaits_none hO
  have hrun := hflat d L O W p hp
  iintro ⟨Hlv, ⟨⟨Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26⟩, Ho⟩, ⟨⟨Hs0, Hs1, Hs2, Hs3⟩, Hrest⟩, Hsem, HO⟩
  ihave Hmw := hmw $$ Hlv
  iapply (wp_wand_r frame _ Set.univ)
  isplitr [Hrest]
  · iapply hrun
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hs0]; · iexact Hs0
    isplitl [Hs3]; · iexact Hs3
    isplitl [Hs1]; · iexact Hs1
    isplitl [Hs2]; · iexact Hs2
    isplitl [Ho]; · iexact Ho
    isplitl [Hsem]; · iexact Hsem
    iexact HO
  · iintro %u ⟨_, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Hs0, Hs3, Hs1, Hs2, ⟨%g, Ho, %hg⟩, Hsem, HW⟩
    isplitl [Hx Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ho]
    · isplitr [Ho]
      · isplitl [Hx]; · iexact Hx
        isplitl [Ht1]; · iexact Ht1
        isplitl [Ht2]; · iexact Ht2
        isplitl [Ht3]; · iexact Ht3
        isplitl [Ht4]; · iexact Ht4
        isplitl [Ht5]; · iexact Ht5
        isplitl [Ht6]; · iexact Ht6
        isplitl [Ht7]; · iexact Ht7
        isplitl [Ht8]; · iexact Ht8
        isplitl [Ht9]; · iexact Ht9
        isplitl [Ht10]; · iexact Ht10
        isplitl [Ht11]; · iexact Ht11
        isplitl [Ht12]; · iexact Ht12
        isplitl [Ht13]; · iexact Ht13
        isplitl [Ht14]; · iexact Ht14
        isplitl [Ht15]; · iexact Ht15
        isplitl [Ht16]; · iexact Ht16
        isplitl [Ht17]; · iexact Ht17
        isplitl [Ht18]; · iexact Ht18
        isplitl [Ht19]; · iexact Ht19
        isplitl [Ht20]; · iexact Ht20
        isplitl [Ht21]; · iexact Ht21
        isplitl [Ht22]; · iexact Ht22
        isplitl [Ht23]; · iexact Ht23
        isplitl [Ht24]; · iexact Ht24
        isplitl [Ht25]; · iexact Ht25
        iexact Ht26
      · have e : (oRowsPts d (wid (L 0).val (L 1).val) (outBuf m d) : sProp 𝕄)
            = (oLoc d ↦[oRows (wid (L 0).val (L 1).val)]{fullShare} g) := (pointsTo_congr hg).symm
        rw [e]
        iexact Ho
    isplitl [Hs0 Hs1 Hs2 Hs3 Hrest]
    · isplitr [Hrest]
      · isplitl [Hs0]; · iexact Hs0
        isplitl [Hs1]; · iexact Hs1
        isplitl [Hs2]; · iexact Hs2
        iexact Hs3
      · iexact Hrest
    isplitl [Hsem]; · iexact Hsem
    iexact HW

end Cert.Proof.KernelIdeal

end
-- ==== Proof.BodyFetch.lean ====
import proofs.«204037_g66941360275737_cont_sun_c4_657_24_alg».proof.KernelIdeal.P03
import Idealize.ShloMosaic.Lib.ValueIdx
import Idealize.ShloMosaic.Lib.SparseCore.Launch
import Idealize.ShloMosaic.Lib.Tactic

/-!
# What the fetch of an index half-row leaves

The transposed index array is 26 rows of 16384 words. A field's fetch copies the 8192 words of row `j` from column
`off` on into an index buffer: word `b` of the buffer is then the array's word at `(j, b + off)`.
-/

noncomputable section

namespace Cert.Proof.BodyFetch

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Shapes1.Facts₀

variable {F : FTy → Type} [FloatOps F] [Facts]

/-- Row `j`, columns `off … off + 8191`, of the array as a vector of 8192 words: its word `b` sits at `(j, b + off)`. -/
theorem emb_row (j : ℕ) (hj : j < 26) (off : ℕ) (hoff : off + 8192 ≤ 16384)
    (inb : ∀ a, (![j, off] : Fin 2 → ℕ) a + S1x8192.size a ≤ S26x16384.size a) (b : ℕ) (hb : b < 8192)
    (h : S8192.numel = S1x8192.numel) :
    (Rect.unit (s := S26x16384) ![j, off] S1x8192.size inb).emb (Shape.reshapeEquiv (s := S1x8192) (s' := S8192) h (ix1 ⟨b, hb⟩))
      = ix2 ⟨j, hj⟩ ⟨b + off, by omega⟩ := by
  have key : Shape.reshapeEquiv (s := S1x8192) (s' := S8192) h (ix1 ⟨b, hb⟩) = Fin.cons ⟨0, Nat.one_pos⟩ (ix1 ⟨b, hb⟩) :=
    Shape.reshapeEquiv_cons_one (n := 1) (d := ![8192]) h _
  rw [key]
  funext a
  apply Fin.ext
  rw [Rect.emb_apply]
  match a with
  | ⟨0, _⟩ => show j + 1 * 0 = j; omega
  | ⟨1, _⟩ => show off + 1 * b = b + off; omega

/-- Word `b` of what the copy of row `j`, columns `off … off + 8191`, moves is the array's word at `(j, b + off)`. -/
theorem fetch_read (j : ℕ) (hj : j < 26) (off : ℕ) (hoff : off + 8192 ≤ 16384)
    (inb : ∀ a, (![j, off] : Fin 2 → ℕ) a + S1x8192.size a ≤ S26x16384.size a)
    (fx : S26x16384.Idx → BitVec 32) (b : ℕ) (hb : b < 8192) :
    (ReadAs.same.apply (View.read (Elt F) (((Memref.whole main_v0_scv : Memref sig .scVector .hbm S26x16384 .i32).slice
        (Rect.unit (s := S26x16384) ![j, off] S1x8192.size inb) (fun _ => rfl)).squeeze S8192 squeezes_S1x8192_S8192).view fx)
      : S8192.Idx → Elt F .i32) (ix1 ⟨b, hb⟩) = fx (ix2 ⟨j, hj⟩ ⟨b + off, by omega⟩) := by
  show fx _ = fx _
  congr 1
  exact emb_row j hj off hoff inb b hb _

/-- Reading back, through the first index buffer held whole, what was written over all of it. -/
theorem read_write_whole1 (d : Dev nD) (c : Fin τ.nSC) (s : Fin τ.nSub)
    (fa : Buf (Elt F) ((Memref.whole cc0_scratch1 : Memref sig .scVector .vmem S8192 .i32).view.loc (V (nD := nD) (τ := τ) d c s)))
    (P : S8192.Idx → Elt F .i32) (y : S8192.Idx) :
    (Memref.whole cc0_scratch1 : Memref sig .scVector .vmem S8192 .i32).view.read (Elt F)
      (View.write (Elt F) (Memref.whole cc0_scratch1 : Memref sig .scVector .vmem S8192 .i32).view fa P Finset.univ) y = P y :=
  congrFun (View.read_write_univ (v := (Memref.whole cc0_scratch1 : Memref sig .scVector .vmem S8192 .i32).view) fa P) y

/-- The same for the second index buffer. -/
theorem read_write_whole2 (d : Dev nD) (c : Fin τ.nSC) (s : Fin τ.nSub)
    (fa : Buf (Elt F) ((Memref.whole cc0_scratch2 : Memref sig .scVector .vmem S8192 .i32).view.loc (V (nD := nD) (τ := τ) d c s)))
    (P : S8192.Idx → Elt F .i32) (y : S8192.Idx) :
    (Memref.whole cc0_scratch2 : Memref sig .scVector .vmem S8192 .i32).view.read (Elt F)
      (View.write (Elt F) (Memref.whole cc0_scratch2 : Memref sig .scVector .vmem S8192 .i32).view fa P Finset.univ) y = P y :=
  congrFun (View.read_write_univ (v := (Memref.whole cc0_scratch2 : Memref sig .scVector .vmem S8192 .i32).view) fa P) y

end Cert.Proof.BodyFetch
-- ==== Proof.UnitArith.lean ====
/-
  The word arithmetic of a tile's unit range.

  Tile w = 2 s + c (c < 2 the core, s < 16 the subcore) owns the units [lo w, hi w), lo w = 936 w / 32 and
  hi w = 936 (w + 1) / 32. The program computes these as 32-bit words: the products, then a floor division by 32
  written as a signed division followed by a correction that applies only to operands of different signs, hence
  never here. Per field j it clips the range to the field's 36 components:
  dlo = min 36 (max 0 (lo - 36 j)), dhi likewise, and runs the components from dlo to dhi in a main loop over
  [dlo, dlo + ((dhi - dlo) / 1) * 1) followed by a remainder loop over [that, dlo + (dhi - dlo)), which is empty.

  This file states those computations as functions of words, spelt exactly as the program spells them, and
  evaluates them: every word is the word of a natural number given in closed form, the main loop has dhi - dlo
  trips (truncated subtraction), the remainder loop has none, and the clipped ranges of the 26 fields, shifted by
  36 j, tile [lo w, hi w). No float operation occurs.
-/
import Idealize.ShloMosaic.Lib.Affine
import proofs.«204037_g66941360275737_cont_sun_c4_657_24_alg».proof.Proof.Spec

namespace Cert.UnitArith

open Idealize.ShloMosaic

/-! ## Words of small natural numbers -/

theorem isInt_iff {x : BitVec 32} {e : Int} : Affine.IsInt x e ↔ x.toInt = e := by
  unfold Affine.IsInt; exact Iff.rfl

/-- A word that reads, signed, as a natural number is the word of that number. -/
theorem eq_ofNat_of_isInt {x : BitVec 32} {n : ℕ} (h : Affine.IsInt x (n : Int)) : x = BitVec.ofNat 32 n := by
  have h1 : (x.toNat : Int) = n := Affine.toNat_of h (by omega)
  have h2 : x.toNat = n := by omega
  have h3 := x.isLt
  apply BitVec.eq_of_toNat_eq
  rw [BitVec.toNat_ofNat, h2]
  exact (Nat.mod_eq_of_lt (by omega)).symm

theorem isInt_ofNat (n : ℕ) (h : n < 2 ^ 31) : Affine.IsInt (BitVec.ofNat 32 n) (n : Int) := Affine.ofNat n ⟨rfl, h⟩

theorem toInt_ofNat (n : ℕ) (h : n < 2 ^ 31) : (BitVec.ofNat 32 n).toInt = (n : Int) := isInt_iff.1 (isInt_ofNat n h)

theorem toNat_ofNat (n : ℕ) (h : n < 2 ^ 32) : (BitVec.ofNat 32 n).toNat = n := by
  rw [BitVec.toNat_ofNat]; exact Nat.mod_eq_of_lt h

/-! ## The tile's number, and floor division by 32 -/

/-- The tile's number `2 s + c` as the program computes it from the two coordinates. -/
def widW (c s : BitVec 32) : BitVec 32 := Scalar.addi (Scalar.muli s 2#32) c

/-- Floor division by 32 as the program spells it: the signed quotient, less one when the operands' signs differ
    and the remainder is not zero. -/
def fdiv32 (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 32#32 0#32)) (Scalar.extui (Scalar.cmpi .slt 32#32 0#32))))
      (Scalar.cmpi .ne (Scalar.remsi x 32#32) 0#32))
    (Scalar.subi (Scalar.divsi x 32#32) 1#32)
    (Scalar.divsi x 32#32)

/-- Of a non-negative word the correction never applies: the result is the quotient. -/
theorem isInt_fdiv32 {x : BitVec 32} {e : Int} (hx : Affine.IsInt x e) (h0 : 0 ≤ e) (h1 : e < 2 ^ 31) :
    Affine.IsInt (fdiv32 x) (e / 32) := by
  have c0 : Affine.IsInt 0#32 0 := Affine.ofNat 0 (by omega)
  have c1 : Affine.IsInt 1#32 1 := Affine.ofNat 1 (by omega)
  have c32 : Affine.IsInt 32#32 32 := Affine.ofNat 32 (by omega)
  have hq : Affine.IsInt (Scalar.divsi x 32#32) (e / 32) := Affine.divsi hx c32 (by omega)
  have hq1 : Affine.IsInt (Scalar.subi (Scalar.divsi x 32#32) 1#32) (e / 32 - 1) := Affine.subi hq c1 (by omega)
  have s6 : Affine.Fails (Scalar.cmpi .slt x 0#32) := Affine.slt_fails hx c0 (by omega)
  have s7 : Affine.IsInt (Scalar.extui (Scalar.cmpi .slt x 0#32)) 0 := Affine.extui_fails s6 rfl
  have s9 : Affine.Holds (Scalar.cmpi .sgt 32#32 0#32) := Affine.sgt_holds c32 c0 (by omega)
  have s10 : Affine.IsInt (Scalar.extui (Scalar.cmpi .sgt 32#32 0#32)) 1 := Affine.extui_holds s9 rfl
  have s11 : Affine.Fails (Scalar.cmpi .slt 32#32 0#32) := Affine.slt_fails c32 c0 (by omega)
  have s12 : Affine.IsInt (Scalar.extui (Scalar.cmpi .slt 32#32 0#32)) 0 := Affine.extui_fails s11 rfl
  have s13 : Affine.IsInt (Scalar.subi (Scalar.extui (Scalar.cmpi .sgt 32#32 0#32)) (Scalar.extui (Scalar.cmpi .slt 32#32 0#32))) 1 :=
    Affine.subi s10 s12 (by omega)
  unfold fdiv32
  rcases Int.lt_or_eq_of_le h0 with hpos | hzero
  · -- a positive operand has the divisor's sign
    have s4 : Affine.Holds (Scalar.cmpi .sgt x 0#32) := Affine.sgt_holds hx c0 hpos
    have s5 : Affine.IsInt (Scalar.extui (Scalar.cmpi .sgt x 0#32)) 1 := Affine.extui_holds s4 rfl
    have s8 : Affine.IsInt (Scalar.subi (Scalar.extui (Scalar.cmpi .sgt x 0#32)) (Scalar.extui (Scalar.cmpi .slt x 0#32))) 1 :=
      Affine.subi s5 s7 (by omega)
    have s14 := Affine.ne_fails s8 s13 rfl
    exact Affine.select_fails (Affine.andi_fails_left s14 trivial) hq1 hq rfl
  · -- zero has remainder zero
    have s15 : Affine.IsInt (Scalar.remsi x 32#32) (e % 32) := Affine.remsi hx c32 (by omega)
    have s16 : Affine.Fails (Scalar.cmpi .ne (Scalar.remsi x 32#32) 0#32) := Affine.ne_fails s15 c0 (by omega)
    exact Affine.select_fails (Affine.andi_fails_right trivial s16) hq1 hq rfl

/-- The first unit of the tile, as the program computes it. -/
def loW (c s : BitVec 32) : BitVec 32 := fdiv32 (Scalar.muli (widW c s) 936#32)
/-- One past its last unit, as the program computes it. -/
def hiW (c s : BitVec 32) : BitVec 32 := fdiv32 (Scalar.muli (Scalar.addi (widW c s) 1#32) 936#32)

theorem isInt_widW (c s : ℕ) (hc : c < 2) (hs : s < 16) :
    Affine.IsInt (widW (BitVec.ofNat 32 c) (BitVec.ofNat 32 s)) ((s * 2 + c : ℕ) : Int) := by
  have h2 : Affine.IsInt 2#32 2 := Affine.ofNat 2 (by omega)
  have hs' := isInt_ofNat s (by omega)
  have hc' := isInt_ofNat c (by omega)
  have h0 : Affine.IsInt (Scalar.muli (BitVec.ofNat 32 s) 2#32) ((s : Int) * 2) := Affine.muli hs' h2 (by omega)
  exact Affine.addi h0 hc' (by push_cast; omega)

theorem widW_eq (c s : ℕ) (hc : c < 2) (hs : s < 16) :
    widW (BitVec.ofNat 32 c) (BitVec.ofNat 32 s) = BitVec.ofNat 32 (s * 2 + c) :=
  eq_ofNat_of_isInt (isInt_widW c s hc hs)

theorem loW_eq (c s : ℕ) (hc : c < 2) (hs : s < 16) :
    loW (BitVec.ofNat 32 c) (BitVec.ofNat 32 s) = BitVec.ofNat 32 (Cert.Spec.lo (s * 2 + c)) := by
  have hw := isInt_widW c s hc hs
  have h936 : Affine.IsInt 936#32 936 := Affine.ofNat 936 (by omega)
  have h2 : Affine.IsInt (Scalar.muli (widW (BitVec.ofNat 32 c) (BitVec.ofNat 32 s)) 936#32) (((s * 2 + c : ℕ) : Int) * 936) :=
    Affine.muli hw h936 (by omega)
  have h3 := isInt_fdiv32 h2 (by omega) (by omega)
  apply eq_ofNat_of_isInt
  unfold loW
  refine Affine.relit h3 ?_
  unfold Cert.Spec.lo
  omega

theorem hiW_eq (c s : ℕ) (hc : c < 2) (hs : s < 16) :
    hiW (BitVec.ofNat 32 c) (BitVec.ofNat 32 s) = BitVec.ofNat 32 (Cert.Spec.hi (s * 2 + c)) := by
  have hw := isInt_widW c s hc hs
  have h1 : Affine.IsInt 1#32 1 := Affine.ofNat 1 (by omega)
  have h936 : Affine.IsInt 936#32 936 := Affine.ofNat 936 (by omega)
  have hw1 : Affine.IsInt (Scalar.addi (widW (BitVec.ofNat 32 c) (BitVec.ofNat 32 s)) 1#32) (((s * 2 + c : ℕ) : Int) + 1) :=
    Affine.addi hw h1 (by omega)
  have h2 : Affine.IsInt (Scalar.muli (Scalar.addi (widW (BitVec.ofNat 32 c) (BitVec.ofNat 32 s)) 1#32) 936#32)
      ((((s * 2 + c : ℕ) : Int) + 1) * 936) := Affine.muli hw1 h936 (by omega)
  have h3 := isInt_fdiv32 h2 (by omega) (by omega)
  apply eq_ofNat_of_isInt
  unfold hiW
  refine Affine.relit h3 ?_
  unfold Cert.Spec.hi
  omega

/-! ## The clip to a field's components -/

/-- `min 36 (max 0 (x - k))` as the program spells it. -/
def clipW (x k : BitVec 32) : BitVec 32 := Scalar.minsi 36#32 (Scalar.maxsi 0#32 (Scalar.subi x k))

/-- The clip of natural numbers: truncated subtraction, capped at 36. -/
def clip (n k : ℕ) : ℕ := min 36 (n - k)

theorem clip_le (n k : ℕ) : clip n k ≤ 36 := Nat.min_le_left _ _

theorem clipW_eq (n k : ℕ) (hn : n < 2 ^ 30) (hk : k < 2 ^ 30) :
    clipW (BitVec.ofNat 32 n) (BitVec.ofNat 32 k) = BitVec.ofNat 32 (clip n k) := by
  have c0 : Affine.IsInt 0#32 0 := Affine.ofNat 0 (by omega)
  have c36 : Affine.IsInt 36#32 36 := Affine.ofNat 36 (by omega)
  have h1 : Affine.IsInt (Scalar.subi (BitVec.ofNat 32 n) (BitVec.ofNat 32 k)) ((n : Int) - k) :=
    Affine.subi (isInt_ofNat n (by omega)) (isInt_ofNat k (by omega)) (by omega)
  have h2 : Affine.IsInt (Scalar.maxsi 0#32 (Scalar.subi (BitVec.ofNat 32 n) (BitVec.ofNat 32 k))) (max 0 ((n : Int) - k)) :=
    Affine.maxsi c0 h1 rfl
  have h3 : Affine.IsInt (clipW (BitVec.ofNat 32 n) (BitVec.ofNat 32 k)) (min 36 (max 0 ((n : Int) - k))) :=
    Affine.minsi c36 h2 rfl
  apply eq_ofNat_of_isInt
  refine Affine.relit h3 ?_
  unfold clip
  omega

/-- The first and one-past-last component of field `j` that tile `w` owns. -/
def dlo (w j : ℕ) : ℕ := clip (Cert.Spec.lo w) (36 * j)
def dhi (w j : ℕ) : ℕ := clip (Cert.Spec.hi w) (36 * j)

theorem dlo_le_dhi (w j : ℕ) : dlo w j ≤ dhi w j := by
  unfold dlo dhi clip Cert.Spec.lo Cert.Spec.hi; omega
theorem dhi_le (w j : ℕ) : dhi w j ≤ 36 := clip_le _ _
theorem dlo_le (w j : ℕ) : dlo w j ≤ 36 := clip_le _ _

/-! ## The two loops over a field's components -/

/-- The main loop's operands, as the program computes them from the two clipped bounds. -/
def mainLoop (a b : BitVec 32) : Scf.Loop 32 :=
  ⟨a, Scalar.addi a (Scalar.muli (Scalar.divsi (Scalar.subi b a) 1#32) 1#32), 1#32⟩
/-- The remainder loop's operands. -/
def remLoop (a b : BitVec 32) : Scf.Loop 32 :=
  ⟨Scalar.addi a (Scalar.muli (Scalar.divsi (Scalar.subi b a) 1#32) 1#32), Scalar.addi a (Scalar.subi b a), 1#32⟩

section Loops
variable (p q : ℕ) (hp : p ≤ 36) (hq : q ≤ 36)
include hp hq

private theorem isInt_mid :
    Affine.IsInt (Scalar.addi (BitVec.ofNat 32 p) (Scalar.muli (Scalar.divsi (Scalar.subi (BitVec.ofNat 32 q) (BitVec.ofNat 32 p)) 1#32) 1#32))
      (q : Int) := by
  have c1 : Affine.IsInt 1#32 1 := Affine.ofNat 1 (by omega)
  have h1 : Affine.IsInt (Scalar.subi (BitVec.ofNat 32 q) (BitVec.ofNat 32 p)) ((q : Int) - p) :=
    Affine.subi (isInt_ofNat q (by omega)) (isInt_ofNat p (by omega)) (by omega)
  have h2 : Affine.IsInt (Scalar.divsi (Scalar.subi (BitVec.ofNat 32 q) (BitVec.ofNat 32 p)) 1#32) ((q : Int) - p) :=
    Affine.divsi_one h1 c1 ⟨rfl, rfl⟩
  have h3 : Affine.IsInt (Scalar.muli (Scalar.divsi (Scalar.subi (BitVec.ofNat 32 q) (BitVec.ofNat 32 p)) 1#32) 1#32) ((q : Int) - p) :=
    Affine.muli h2 c1 (by omega)
  exact Affine.addi (isInt_ofNat p (by omega)) h3 (by omega)

/-- The main loop runs the components from `p` to `q`: `q - p` trips (none when `q ≤ p`). -/
theorem mainLoop_trips : (mainLoop (BitVec.ofNat 32 p) (BitVec.ofNat 32 q)).trips = q - p := by
  have hub := isInt_iff.1 (isInt_mid p q hp hq)
  have hlb := toInt_ofNat p (by omega)
  have hst : (1#32 : BitVec 32).toInt = 1 := by decide
  show Scf.trips _ _ _ = _
  unfold Scf.trips
  simp only [mainLoop]
  rw [hub, hlb, hst]
  omega

theorem mainLoop_ok : (mainLoop (BitVec.ofNat 32 p) (BitVec.ofNat 32 q)).OK := by
  have ht := mainLoop_trips p q hp hq
  have hlb := toInt_ofNat p (by omega)
  have hst : (1#32 : BitVec 32).toInt = 1 := by decide
  show Scf.OK _ _ _
  unfold Scf.OK
  change (0 < (1#32 : BitVec 32).toInt) ∧ (BitVec.ofNat 32 p).toInt + ((mainLoop (BitVec.ofNat 32 p) (BitVec.ofNat 32 q)).trips : Int) * (1#32 : BitVec 32).toInt < 2 ^ (32 - 1)
  rw [ht, hlb, hst]
  omega

/-- The remainder loop is empty. -/
theorem remLoop_trips : (remLoop (BitVec.ofNat 32 p) (BitVec.ofNat 32 q)).trips = 0 := by
  have hlb := isInt_iff.1 (isInt_mid p q hp hq)
  have h1 : Affine.IsInt (Scalar.subi (BitVec.ofNat 32 q) (BitVec.ofNat 32 p)) ((q : Int) - p) :=
    Affine.subi (isInt_ofNat q (by omega)) (isInt_ofNat p (by omega)) (by omega)
  have hub := isInt_iff.1 (Affine.addi (e := (q : Int)) (isInt_ofNat p (by omega)) h1 (by omega))
  have hst : (1#32 : BitVec 32).toInt = 1 := by decide
  show Scf.trips _ _ _ = _
  unfold Scf.trips
  simp only [remLoop]
  rw [hub, hlb, hst]
  omega

end Loops

/-- The induction variable of a loop from the word of `p` by steps of one, at trip `k`: the word of `p + k`. -/
theorem iv_ofNat (p k : ℕ) : Scf.iv (BitVec.ofNat 32 p) 1#32 k = BitVec.ofNat 32 (p + k) := by
  unfold Scf.iv
  rw [BitVec.mul_one, BitVec.ofNat_add]

/-! ## The fields' clipped ranges partition the tile's range -/

/-- Unit `u` lies in the tile's range exactly when its component lies in the clipped range of its field. -/
theorem mem_range_iff (w u : ℕ) (hu : u < 936) :
    (dlo w (u / 36) ≤ u % 36 ∧ u % 36 < dhi w (u / 36)) ↔ (Cert.Spec.lo w ≤ u ∧ u < Cert.Spec.hi w) := by
  unfold dlo dhi clip
  generalize Cert.Spec.lo w = L
  generalize Cert.Spec.hi w = H
  omega

/-- The same from a field and a component. -/
theorem mem_range_iff' (w j d : ℕ) (hd : d < 36) :
    (dlo w j ≤ d ∧ d < dhi w j) ↔ (Cert.Spec.lo w ≤ 36 * j + d ∧ 36 * j + d < Cert.Spec.hi w) := by
  unfold dlo dhi clip
  generalize Cert.Spec.lo w = L
  generalize Cert.Spec.hi w = H
  omega

/-- A field beyond the tile's range, on either side, has an empty clipped range. -/
theorem dlo_eq_dhi_of_disjoint (w j : ℕ) (h : Cert.Spec.hi w ≤ 36 * j ∨ 36 * j + 36 ≤ Cert.Spec.lo w) : dlo w j = dhi w j := by
  have := Cert.Spec.lo_le_hi w
  unfold dlo dhi clip
  generalize Cert.Spec.lo w = L at *
  generalize Cert.Spec.hi w = H at *
  omega

/-! ## The guard of a field, and one field's words in closed form -/

/-- The program fetches a field's indices when `dhi > dlo`, the comparison widened and tested against zero. -/
theorem guard_iff (p q : ℕ) (hp : p < 2 ^ 31) (hq : q < 2 ^ 31) :
    Scalar.cmpi .ne (Scalar.extui (Scalar.cmpi .sgt (BitVec.ofNat 32 q) (BitVec.ofNat 32 p))) 0#32 = 1#1 ↔ p < q := by
  rw [Scalar.guard_iff, Scalar.cmpi, IntOp.cmpi_sgt, toInt_ofNat q hq, toInt_ofNat p hp]
  omega

theorem lo_lt (w : ℕ) (hw : w < 32) : Cert.Spec.lo w < 1024 := by unfold Cert.Spec.lo; omega
theorem hi_lt (w : ℕ) (hw : w < 32) : Cert.Spec.hi w < 1024 := by unfold Cert.Spec.hi; omega

section Field
variable (c s j : ℕ) (hc : c < 2) (hs : s < 16) (hj : j ≤ 25)
include hc hs hj

/-- Field `j`'s first component, as the program computes it from the two coordinates. -/
theorem dloW_eq :
    clipW (loW (BitVec.ofNat 32 c) (BitVec.ofNat 32 s)) (BitVec.ofNat 32 (36 * j)) = BitVec.ofNat 32 (dlo (s * 2 + c) j) := by
  rw [loW_eq c s hc hs]
  exact clipW_eq _ _ (by have := lo_lt (s * 2 + c) (by omega); omega) (by omega)

/-- Field `j`'s one-past-last component. -/
theorem dhiW_eq :
    clipW (hiW (BitVec.ofNat 32 c) (BitVec.ofNat 32 s)) (BitVec.ofNat 32 (36 * j)) = BitVec.ofNat 32 (dhi (s * 2 + c) j) := by
  rw [hiW_eq c s hc hs]
  exact clipW_eq _ _ (by have := hi_lt (s * 2 + c) (by omega); omega) (by omega)

/-- The field's guard holds exactly when the tile owns a component of it. -/
theorem field_guard_iff :
    Scalar.cmpi .ne (Scalar.extui (Scalar.cmpi .sgt
        (clipW (hiW (BitVec.ofNat 32 c) (BitVec.ofNat 32 s)) (BitVec.ofNat 32 (36 * j)))
        (clipW (loW (BitVec.ofNat 32 c) (BitVec.ofNat 32 s)) (BitVec.ofNat 32 (36 * j))))) 0#32 = 1#1
      ↔ dlo (s * 2 + c) j < dhi (s * 2 + c) j := by
  rw [dloW_eq c s j hc hs hj, dhiW_eq c s j hc hs hj]
  exact guard_iff _ _ (by have := dlo_le (s * 2 + c) j; omega) (by have := dhi_le (s * 2 + c) j; omega)

/-- The field's main loop has `dhi - dlo` trips. -/
theorem field_main_trips :
    (mainLoop (clipW (loW (BitVec.ofNat 32 c) (BitVec.ofNat 32 s)) (BitVec.ofNat 32 (36 * j)))
      (clipW (hiW (BitVec.ofNat 32 c) (BitVec.ofNat 32 s)) (BitVec.ofNat 32 (36 * j)))).trips
      = dhi (s * 2 + c) j - dlo (s * 2 + c) j := by
  rw [dloW_eq c s j hc hs hj, dhiW_eq c s j hc hs hj]
  exact mainLoop_trips _ _ (dlo_le _ _) (dhi_le _ _)

/-- The field's remainder loop has none. -/
theorem field_rem_trips :
    (remLoop (clipW (loW (BitVec.ofNat 32 c) (BitVec.ofNat 32 s)) (BitVec.ofNat 32 (36 * j)))
      (clipW (hiW (BitVec.ofNat 32 c) (BitVec.ofNat 32 s)) (BitVec.ofNat 32 (36 * j)))).trips = 0 := by
  rw [dloW_eq c s j hc hs hj, dhiW_eq c s j hc hs hj]
  exact remLoop_trips _ _ (dlo_le _ _) (dhi_le _ _)

/-- The component the main loop is at, at trip `t`: the table row it reads. -/
theorem field_iv_toNat (t : ℕ) (ht : t ≤ 36) :
    (Scf.iv (clipW (loW (BitVec.ofNat 32 c) (BitVec.ofNat 32 s)) (BitVec.ofNat 32 (36 * j))) 1#32 t).toNat
      = dlo (s * 2 + c) j + t := by
  rw [dloW_eq c s j hc hs hj, iv_ofNat]
  exact toNat_ofNat _ (by have := dlo_le (s * 2 + c) j; omega)

/-- The unit the main loop is at, at trip `t`: the output row it writes. -/
theorem field_unit_toNat (t : ℕ) (ht : t ≤ 36) :
    (Scalar.addi (BitVec.ofNat 32 (36 * j))
        (Scf.iv (clipW (loW (BitVec.ofNat 32 c) (BitVec.ofNat 32 s)) (BitVec.ofNat 32 (36 * j))) 1#32 t)).toNat
      = 36 * j + dlo (s * 2 + c) j + t := by
  rw [dloW_eq c s j hc hs hj, iv_ofNat]
  have hd := dlo_le (s * 2 + c) j
  show (BitVec.ofNat 32 (36 * j) + BitVec.ofNat 32 (dlo (s * 2 + c) j + t)).toNat = _
  rw [← BitVec.ofNat_add, toNat_ofNat _ (by omega)]
  omega

end Field

end Cert.UnitArith
-- ==== Proof.UnitArithK.lean ====
/-
  The tile's unit range in the printed program's own names.

  Each field's two loops over its components, and the three offset functions of its main loop, are the printed chains
  of word operations; by unfolding they are the functions of words stated once in the pure arithmetic of the unit range,
  at the tile's two coordinates and the field's literal 36 j. Their closed forms follow: the main loop of field j
  has dhi - dlo trips, the remainder loop none, and at trip t the main loop reads row dlo + t of the field's table and
  writes the two halves of output row 36 j + dlo + t.
-/
import proofs.«204037_g66941360275737_cont_sun_c4_657_24_alg».proof.KernelIdeal
import proofs.«204037_g66941360275737_cont_sun_c4_657_24_alg».proof.Proof.UnitArith

namespace Cert.KernelIdeal.UnitArithK

open Idealize.ShloMosaic Cert.UnitArith

/-- The tile's number: twice the subcore plus the core. -/
def wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

/-- The two coordinates as the program reads them. -/
abbrev cW (i : grid0.Coords) : BitVec 32 := BitVec.ofNat 32 (i 0).val
abbrev sW (i : grid0.Coords) : BitVec 32 := BitVec.ofNat 32 (i 1).val

theorem loW_wid (i : grid0.Coords) : loW (cW i) (sW i) = BitVec.ofNat 32 (Cert.Spec.lo (wid i)) :=
  loW_eq (i 0).val (i 1).val (i 0).isLt (i 1).isLt
theorem hiW_wid (i : grid0.Coords) : hiW (cW i) (sW i) = BitVec.ofNat 32 (Cert.Spec.hi (wid i)) :=
  hiW_eq (i 0).val (i 1).val (i 0).isLt (i 1).isLt

/-! ### Field 0 -/

theorem t1_loop_eq (i : grid0.Coords) : k0_t1_loop i = mainLoop (clipW (loW (cW i) (sW i)) 0#32) (clipW (hiW (cW i) (sW i)) 0#32) := rfl
theorem t4_loop_eq (i : grid0.Coords) : k0_t4_loop i = remLoop (clipW (loW (cW i) (sW i)) 0#32) (clipW (hiW (cW i) (sW i)) 0#32) := rfl
theorem t1_trips (i : grid0.Coords) : (k0_t1_loop i).trips = dhi (wid i) 0 - dlo (wid i) 0 := by
  rw [t1_loop_eq]; exact field_main_trips (i 0).val (i 1).val 0 (i 0).isLt (i 1).isLt (by omega)
theorem t4_trips (i : grid0.Coords) : (k0_t4_loop i).trips = 0 := by
  rw [t4_loop_eq]; exact field_rem_trips (i 0).val (i 1).val 0 (i 0).isLt (i 1).isLt (by omega)
theorem t1_le (i : grid0.Coords) (t : Fin (k0_t1_loop i).trips) : t.val ≤ 36 := by
  have h1 := Nat.lt_of_lt_of_eq t.isLt (t1_trips i)
  have h2 := dhi_le (wid i) 0
  omega
theorem off1_eq (i : grid0.Coords) (t : Fin (k0_t1_loop i).trips) : k0_off1 i t = ![dlo (wid i) 0 + t.val, 0] := by
  show ![(Scf.iv (clipW (loW (cW i) (sW i)) 0#32) 1#32 t.val).toNat, 0] = _
  rw [field_iv_toNat (i 0).val (i 1).val 0 (i 0).isLt (i 1).isLt (by omega) t.val (t1_le i t)]; rfl
theorem off19_eq (i : grid0.Coords) (t : Fin (k0_t1_loop i).trips) : k0_off19 i t = ![0 + dlo (wid i) 0 + t.val, 0] := by
  show ![(Scalar.addi 0#32 (Scf.iv (clipW (loW (cW i) (sW i)) 0#32) 1#32 t.val)).toNat, 0] = _
  rw [field_unit_toNat (i 0).val (i 1).val 0 (i 0).isLt (i 1).isLt (by omega) t.val (t1_le i t)]; rfl
theorem off37_eq (i : grid0.Coords) (t : Fin (k0_t1_loop i).trips) : k0_off37 i t = ![0 + dlo (wid i) 0 + t.val, 8192] := by
  show ![(Scalar.addi 0#32 (Scf.iv (clipW (loW (cW i) (sW i)) 0#32) 1#32 t.val)).toNat, 8192] = _
  rw [field_unit_toNat (i 0).val (i 1).val 0 (i 0).isLt (i 1).isLt (by omega) t.val (t1_le i t)]; rfl

/-! ### Field 1 -/

theorem t7_loop_eq (i : grid0.Coords) : k0_t7_loop i = mainLoop (clipW (loW (cW i) (sW i)) 36#32) (clipW (hiW (cW i) (sW i)) 36#32) := rfl
theorem t10_loop_eq (i : grid0.Coords) : k0_t10_loop i = remLoop (clipW (loW (cW i) (sW i)) 36#32) (clipW (hiW (cW i) (sW i)) 36#32) := rfl
theorem t7_trips (i : grid0.Coords) : (k0_t7_loop i).trips = dhi (wid i) 1 - dlo (wid i) 1 := by
  rw [t7_loop_eq]; exact field_main_trips (i 0).val (i 1).val 1 (i 0).isLt (i 1).isLt (by omega)
theorem t10_trips (i : grid0.Coords) : (k0_t10_loop i).trips = 0 := by
  rw [t10_loop_eq]; exact field_rem_trips (i 0).val (i 1).val 1 (i 0).isLt (i 1).isLt (by omega)
theorem t7_le (i : grid0.Coords) (t : Fin (k0_t7_loop i).trips) : t.val ≤ 36 := by
  have h1 := Nat.lt_of_lt_of_eq t.isLt (t7_trips i)
  have h2 := dhi_le (wid i) 1
  omega
theorem off75_eq (i : grid0.Coords) (t : Fin (k0_t7_loop i).trips) : k0_off75 i t = ![dlo (wid i) 1 + t.val, 0] := by
  show ![(Scf.iv (clipW (loW (cW i) (sW i)) 36#32) 1#32 t.val).toNat, 0] = _
  rw [field_iv_toNat (i 0).val (i 1).val 1 (i 0).isLt (i 1).isLt (by omega) t.val (t7_le i t)]; rfl
theorem off93_eq (i : grid0.Coords) (t : Fin (k0_t7_loop i).trips) : k0_off93 i t = ![36 + dlo (wid i) 1 + t.val, 0] := by
  show ![(Scalar.addi 36#32 (Scf.iv (clipW (loW (cW i) (sW i)) 36#32) 1#32 t.val)).toNat, 0] = _
  rw [field_unit_toNat (i 0).val (i 1).val 1 (i 0).isLt (i 1).isLt (by omega) t.val (t7_le i t)]; rfl
theorem off111_eq (i : grid0.Coords) (t : Fin (k0_t7_loop i).trips) : k0_off111 i t = ![36 + dlo (wid i) 1 + t.val, 8192] := by
  show ![(Scalar.addi 36#32 (Scf.iv (clipW (loW (cW i) (sW i)) 36#32) 1#32 t.val)).toNat, 8192] = _
  rw [field_unit_toNat (i 0).val (i 1).val 1 (i 0).isLt (i 1).isLt (by omega) t.val (t7_le i t)]; rfl

/-! ### Field 2 -/

theorem t13_loop_eq (i : grid0.Coords) : k0_t13_loop i = mainLoop (clipW (loW (cW i) (sW i)) 72#32) (clipW (hiW (cW i) (sW i)) 72#32) := rfl
theorem t16_loop_eq (i : grid0.Coords) : k0_t16_loop i = remLoop (clipW (loW (cW i) (sW i)) 72#32) (clipW (hiW (cW i) (sW i)) 72#32) := rfl
theorem t13_trips (i : grid0.Coords) : (k0_t13_loop i).trips = dhi (wid i) 2 - dlo (wid i) 2 := by
  rw [t13_loop_eq]; exact field_main_trips (i 0).val (i 1).val 2 (i 0).isLt (i 1).isLt (by omega)
theorem t16_trips (i : grid0.Coords) : (k0_t16_loop i).trips = 0 := by
  rw [t16_loop_eq]; exact field_rem_trips (i 0).val (i 1).val 2 (i 0).isLt (i 1).isLt (by omega)
theorem t13_le (i : grid0.Coords) (t : Fin (k0_t13_loop i).trips) : t.val ≤ 36 := by
  have h1 := Nat.lt_of_lt_of_eq t.isLt (t13_trips i)
  have h2 := dhi_le (wid i) 2
  omega
theorem off149_eq (i : grid0.Coords) (t : Fin (k0_t13_loop i).trips) : k0_off149 i t = ![dlo (wid i) 2 + t.val, 0] := by
  show ![(Scf.iv (clipW (loW (cW i) (sW i)) 72#32) 1#32 t.val).toNat, 0] = _
  rw [field_iv_toNat (i 0).val (i 1).val 2 (i 0).isLt (i 1).isLt (by omega) t.val (t13_le i t)]; rfl
theorem off167_eq (i : grid0.Coords) (t : Fin (k0_t13_loop i).trips) : k0_off167 i t = ![72 + dlo (wid i) 2 + t.val, 0] := by
  show ![(Scalar.addi 72#32 (Scf.iv (clipW (loW (cW i) (sW i)) 72#32) 1#32 t.val)).toNat, 0] = _
  rw [field_unit_toNat (i 0).val (i 1).val 2 (i 0).isLt (i 1).isLt (by omega) t.val (t13_le i t)]; rfl
theorem off185_eq (i : grid0.Coords) (t : Fin (k0_t13_loop i).trips) : k0_off185 i t = ![72 + dlo (wid i) 2 + t.val, 8192] := by
  show ![(Scalar.addi 72#32 (Scf.iv (clipW (loW (cW i) (sW i)) 72#32) 1#32 t.val)).toNat, 8192] = _
  rw [field_unit_toNat (i 0).val (i 1).val 2 (i 0).isLt (i 1).isLt (by omega) t.val (t13_le i t)]; rfl

/-! ### Field 3 -/

theorem t19_loop_eq (i : grid0.Coords) : k0_t19_loop i = mainLoop (clipW (loW (cW i) (sW i)) 108#32) (clipW (hiW (cW i) (sW i)) 108#32) := rfl
theorem t22_loop_eq (i : grid0.Coords) : k0_t22_loop i = remLoop (clipW (loW (cW i) (sW i)) 108#32) (clipW (hiW (cW i) (sW i)) 108#32) := rfl
theorem t19_trips (i : grid0.Coords) : (k0_t19_loop i).trips = dhi (wid i) 3 - dlo (wid i) 3 := by
  rw [t19_loop_eq]; exact field_main_trips (i 0).val (i 1).val 3 (i 0).isLt (i 1).isLt (by omega)
theorem t22_trips (i : grid0.Coords) : (k0_t22_loop i).trips = 0 := by
  rw [t22_loop_eq]; exact field_rem_trips (i 0).val (i 1).val 3 (i 0).isLt (i 1).isLt (by omega)
theorem t19_le (i : grid0.Coords) (t : Fin (k0_t19_loop i).trips) : t.val ≤ 36 := by
  have h1 := Nat.lt_of_lt_of_eq t.isLt (t19_trips i)
  have h2 := dhi_le (wid i) 3
  omega
theorem off223_eq (i : grid0.Coords) (t : Fin (k0_t19_loop i).trips) : k0_off223 i t = ![dlo (wid i) 3 + t.val, 0] := by
  show ![(Scf.iv (clipW (loW (cW i) (sW i)) 108#32) 1#32 t.val).toNat, 0] = _
  rw [field_iv_toNat (i 0).val (i 1).val 3 (i 0).isLt (i 1).isLt (by omega) t.val (t19_le i t)]; rfl
theorem off241_eq (i : grid0.Coords) (t : Fin (k0_t19_loop i).trips) : k0_off241 i t = ![108 + dlo (wid i) 3 + t.val, 0] := by
  show ![(Scalar.addi 108#32 (Scf.iv (clipW (loW (cW i) (sW i)) 108#32) 1#32 t.val)).toNat, 0] = _
  rw [field_unit_toNat (i 0).val (i 1).val 3 (i 0).isLt (i 1).isLt (by omega) t.val (t19_le i t)]; rfl
theorem off259_eq (i : grid0.Coords) (t : Fin (k0_t19_loop i).trips) : k0_off259 i t = ![108 + dlo (wid i) 3 + t.val, 8192] := by
  show ![(Scalar.addi 108#32 (Scf.iv (clipW (loW (cW i) (sW i)) 108#32) 1#32 t.val)).toNat, 8192] = _
  rw [field_unit_toNat (i 0).val (i 1).val 3 (i 0).isLt (i 1).isLt (by omega) t.val (t19_le i t)]; rfl

/-! ### Field 4 -/

theorem t25_loop_eq (i : grid0.Coords) : k0_t25_loop i = mainLoop (clipW (loW (cW i) (sW i)) 144#32) (clipW (hiW (cW i) (sW i)) 144#32) := rfl
theorem t28_loop_eq (i : grid0.Coords) : k0_t28_loop i = remLoop (clipW (loW (cW i) (sW i)) 144#32) (clipW (hiW (cW i) (sW i)) 144#32) := rfl
theorem t25_trips (i : grid0.Coords) : (k0_t25_loop i).trips = dhi (wid i) 4 - dlo (wid i) 4 := by
  rw [t25_loop_eq]; exact field_main_trips (i 0).val (i 1).val 4 (i 0).isLt (i 1).isLt (by omega)
theorem t28_trips (i : grid0.Coords) : (k0_t28_loop i).trips = 0 := by
  rw [t28_loop_eq]; exact field_rem_trips (i 0).val (i 1).val 4 (i 0).isLt (i 1).isLt (by omega)
theorem t25_le (i : grid0.Coords) (t : Fin (k0_t25_loop i).trips) : t.val ≤ 36 := by
  have h1 := Nat.lt_of_lt_of_eq t.isLt (t25_trips i)
  have h2 := dhi_le (wid i) 4
  omega
theorem off297_eq (i : grid0.Coords) (t : Fin (k0_t25_loop i).trips) : k0_off297 i t = ![dlo (wid i) 4 + t.val, 0] := by
  show ![(Scf.iv (clipW (loW (cW i) (sW i)) 144#32) 1#32 t.val).toNat, 0] = _
  rw [field_iv_toNat (i 0).val (i 1).val 4 (i 0).isLt (i 1).isLt (by omega) t.val (t25_le i t)]; rfl
theorem off315_eq (i : grid0.Coords) (t : Fin (k0_t25_loop i).trips) : k0_off315 i t = ![144 + dlo (wid i) 4 + t.val, 0] := by
  show ![(Scalar.addi 144#32 (Scf.iv (clipW (loW (cW i) (sW i)) 144#32) 1#32 t.val)).toNat, 0] = _
  rw [field_unit_toNat (i 0).val (i 1).val 4 (i 0).isLt (i 1).isLt (by omega) t.val (t25_le i t)]; rfl
theorem off333_eq (i : grid0.Coords) (t : Fin (k0_t25_loop i).trips) : k0_off333 i t = ![144 + dlo (wid i) 4 + t.val, 8192] := by
  show ![(Scalar.addi 144#32 (Scf.iv (clipW (loW (cW i) (sW i)) 144#32) 1#32 t.val)).toNat, 8192] = _
  rw [field_unit_toNat (i 0).val (i 1).val 4 (i 0).isLt (i 1).isLt (by omega) t.val (t25_le i t)]; rfl

/-! ### Field 5 -/

theorem t31_loop_eq (i : grid0.Coords) : k0_t31_loop i = mainLoop (clipW (loW (cW i) (sW i)) 180#32) (clipW (hiW (cW i) (sW i)) 180#32) := rfl
theorem t34_loop_eq (i : grid0.Coords) : k0_t34_loop i = remLoop (clipW (loW (cW i) (sW i)) 180#32) (clipW (hiW (cW i) (sW i)) 180#32) := rfl
theorem t31_trips (i : grid0.Coords) : (k0_t31_loop i).trips = dhi (wid i) 5 - dlo (wid i) 5 := by
  rw [t31_loop_eq]; exact field_main_trips (i 0).val (i 1).val 5 (i 0).isLt (i 1).isLt (by omega)
theorem t34_trips (i : grid0.Coords) : (k0_t34_loop i).trips = 0 := by
  rw [t34_loop_eq]; exact field_rem_trips (i 0).val (i 1).val 5 (i 0).isLt (i 1).isLt (by omega)
theorem t31_le (i : grid0.Coords) (t : Fin (k0_t31_loop i).trips) : t.val ≤ 36 := by
  have h1 := Nat.lt_of_lt_of_eq t.isLt (t31_trips i)
  have h2 := dhi_le (wid i) 5
  omega
theorem off371_eq (i : grid0.Coords) (t : Fin (k0_t31_loop i).trips) : k0_off371 i t = ![dlo (wid i) 5 + t.val, 0] := by
  show ![(Scf.iv (clipW (loW (cW i) (sW i)) 180#32) 1#32 t.val).toNat, 0] = _
  rw [field_iv_toNat (i 0).val (i 1).val 5 (i 0).isLt (i 1).isLt (by omega) t.val (t31_le i t)]; rfl
theorem off389_eq (i : grid0.Coords) (t : Fin (k0_t31_loop i).trips) : k0_off389 i t = ![180 + dlo (wid i) 5 + t.val, 0] := by
  show ![(Scalar.addi 180#32 (Scf.iv (clipW (loW (cW i) (sW i)) 180#32) 1#32 t.val)).toNat, 0] = _
  rw [field_unit_toNat (i 0).val (i 1).val 5 (i 0).isLt (i 1).isLt (by omega) t.val (t31_le i t)]; rfl
theorem off407_eq (i : grid0.Coords) (t : Fin (k0_t31_loop i).trips) : k0_off407 i t = ![180 + dlo (wid i) 5 + t.val, 8192] := by
  show ![(Scalar.addi 180#32 (Scf.iv (clipW (loW (cW i) (sW i)) 180#32) 1#32 t.val)).toNat, 8192] = _
  rw [field_unit_toNat (i 0).val (i 1).val 5 (i 0).isLt (i 1).isLt (by omega) t.val (t31_le i t)]; rfl

/-! ### Field 6 -/

theorem t37_loop_eq (i : grid0.Coords) : k0_t37_loop i = mainLoop (clipW (loW (cW i) (sW i)) 216#32) (clipW (hiW (cW i) (sW i)) 216#32) := rfl
theorem t40_loop_eq (i : grid0.Coords) : k0_t40_loop i = remLoop (clipW (loW (cW i) (sW i)) 216#32) (clipW (hiW (cW i) (sW i)) 216#32) := rfl
theorem t37_trips (i : grid0.Coords) : (k0_t37_loop i).trips = dhi (wid i) 6 - dlo (wid i) 6 := by
  rw [t37_loop_eq]; exact field_main_trips (i 0).val (i 1).val 6 (i 0).isLt (i 1).isLt (by omega)
theorem t40_trips (i : grid0.Coords) : (k0_t40_loop i).trips = 0 := by
  rw [t40_loop_eq]; exact field_rem_trips (i 0).val (i 1).val 6 (i 0).isLt (i 1).isLt (by omega)
theorem t37_le (i : grid0.Coords) (t : Fin (k0_t37_loop i).trips) : t.val ≤ 36 := by
  have h1 := Nat.lt_of_lt_of_eq t.isLt (t37_trips i)
  have h2 := dhi_le (wid i) 6
  omega
theorem off445_eq (i : grid0.Coords) (t : Fin (k0_t37_loop i).trips) : k0_off445 i t = ![dlo (wid i) 6 + t.val, 0] := by
  show ![(Scf.iv (clipW (loW (cW i) (sW i)) 216#32) 1#32 t.val).toNat, 0] = _
  rw [field_iv_toNat (i 0).val (i 1).val 6 (i 0).isLt (i 1).isLt (by omega) t.val (t37_le i t)]; rfl
theorem off463_eq (i : grid0.Coords) (t : Fin (k0_t37_loop i).trips) : k0_off463 i t = ![216 + dlo (wid i) 6 + t.val, 0] := by
  show ![(Scalar.addi 216#32 (Scf.iv (clipW (loW (cW i) (sW i)) 216#32) 1#32 t.val)).toNat, 0] = _
  rw [field_unit_toNat (i 0).val (i 1).val 6 (i 0).isLt (i 1).isLt (by omega) t.val (t37_le i t)]; rfl
theorem off481_eq (i : grid0.Coords) (t : Fin (k0_t37_loop i).trips) : k0_off481 i t = ![216 + dlo (wid i) 6 + t.val, 8192] := by
  show ![(Scalar.addi 216#32 (Scf.iv (clipW (loW (cW i) (sW i)) 216#32) 1#32 t.val)).toNat, 8192] = _
  rw [field_unit_toNat (i 0).val (i 1).val 6 (i 0).isLt (i 1).isLt (by omega) t.val (t37_le i t)]; rfl

/-! ### Field 7 -/

theorem t43_loop_eq (i : grid0.Coords) : k0_t43_loop i = mainLoop (clipW (loW (cW i) (sW i)) 252#32) (clipW (hiW (cW i) (sW i)) 252#32) := rfl
theorem t46_loop_eq (i : grid0.Coords) : k0_t46_loop i = remLoop (clipW (loW (cW i) (sW i)) 252#32) (clipW (hiW (cW i) (sW i)) 252#32) := rfl
theorem t43_trips (i : grid0.Coords) : (k0_t43_loop i).trips = dhi (wid i) 7 - dlo (wid i) 7 := by
  rw [t43_loop_eq]; exact field_main_trips (i 0).val (i 1).val 7 (i 0).isLt (i 1).isLt (by omega)
theorem t46_trips (i : grid0.Coords) : (k0_t46_loop i).trips = 0 := by
  rw [t46_loop_eq]; exact field_rem_trips (i 0).val (i 1).val 7 (i 0).isLt (i 1).isLt (by omega)
theorem t43_le (i : grid0.Coords) (t : Fin (k0_t43_loop i).trips) : t.val ≤ 36 := by
  have h1 := Nat.lt_of_lt_of_eq t.isLt (t43_trips i)
  have h2 := dhi_le (wid i) 7
  omega
theorem off519_eq (i : grid0.Coords) (t : Fin (k0_t43_loop i).trips) : k0_off519 i t = ![dlo (wid i) 7 + t.val, 0] := by
  show ![(Scf.iv (clipW (loW (cW i) (sW i)) 252#32) 1#32 t.val).toNat, 0] = _
  rw [field_iv_toNat (i 0).val (i 1).val 7 (i 0).isLt (i 1).isLt (by omega) t.val (t43_le i t)]; rfl
theorem off537_eq (i : grid0.Coords) (t : Fin (k0_t43_loop i).trips) : k0_off537 i t = ![252 + dlo (wid i) 7 + t.val, 0] := by
  show ![(Scalar.addi 252#32 (Scf.iv (clipW (loW (cW i) (sW i)) 252#32) 1#32 t.val)).toNat, 0] = _
  rw [field_unit_toNat (i 0).val (i 1).val 7 (i 0).isLt (i 1).isLt (by omega) t.val (t43_le i t)]; rfl
theorem off555_eq (i : grid0.Coords) (t : Fin (k0_t43_loop i).trips) : k0_off555 i t = ![252 + dlo (wid i) 7 + t.val, 8192] := by
  show ![(Scalar.addi 252#32 (Scf.iv (clipW (loW (cW i) (sW i)) 252#32) 1#32 t.val)).toNat, 8192] = _
  rw [field_unit_toNat (i 0).val (i 1).val 7 (i 0).isLt (i 1).isLt (by omega) t.val (t43_le i t)]; rfl

/-! ### Field 8 -/

theorem t49_loop_eq (i : grid0.Coords) : k0_t49_loop i = mainLoop (clipW (loW (cW i) (sW i)) 288#32) (clipW (hiW (cW i) (sW i)) 288#32) := rfl
theorem t52_loop_eq (i : grid0.Coords) : k0_t52_loop i = remLoop (clipW (loW (cW i) (sW i)) 288#32) (clipW (hiW (cW i) (sW i)) 288#32) := rfl
theorem t49_trips (i : grid0.Coords) : (k0_t49_loop i).trips = dhi (wid i) 8 - dlo (wid i) 8 := by
  rw [t49_loop_eq]; exact field_main_trips (i 0).val (i 1).val 8 (i 0).isLt (i 1).isLt (by omega)
theorem t52_trips (i : grid0.Coords) : (k0_t52_loop i).trips = 0 := by
  rw [t52_loop_eq]; exact field_rem_trips (i 0).val (i 1).val 8 (i 0).isLt (i 1).isLt (by omega)
theorem t49_le (i : grid0.Coords) (t : Fin (k0_t49_loop i).trips) : t.val ≤ 36 := by
  have h1 := Nat.lt_of_lt_of_eq t.isLt (t49_trips i)
  have h2 := dhi_le (wid i) 8
  omega
theorem off593_eq (i : grid0.Coords) (t : Fin (k0_t49_loop i).trips) : k0_off593 i t = ![dlo (wid i) 8 + t.val, 0] := by
  show ![(Scf.iv (clipW (loW (cW i) (sW i)) 288#32) 1#32 t.val).toNat, 0] = _
  rw [field_iv_toNat (i 0).val (i 1).val 8 (i 0).isLt (i 1).isLt (by omega) t.val (t49_le i t)]; rfl
theorem off611_eq (i : grid0.Coords) (t : Fin (k0_t49_loop i).trips) : k0_off611 i t = ![288 + dlo (wid i) 8 + t.val, 0] := by
  show ![(Scalar.addi 288#32 (Scf.iv (clipW (loW (cW i) (sW i)) 288#32) 1#32 t.val)).toNat, 0] = _
  rw [field_unit_toNat (i 0).val (i 1).val 8 (i 0).isLt (i 1).isLt (by omega) t.val (t49_le i t)]; rfl
theorem off629_eq (i : grid0.Coords) (t : Fin (k0_t49_loop i).trips) : k0_off629 i t = ![288 + dlo (wid i) 8 + t.val, 8192] := by
  show ![(Scalar.addi 288#32 (Scf.iv (clipW (loW (cW i) (sW i)) 288#32) 1#32 t.val)).toNat, 8192] = _
  rw [field_unit_toNat (i 0).val (i 1).val 8 (i 0).isLt (i 1).isLt (by omega) t.val (t49_le i t)]; rfl

/-! ### Field 9 -/

theorem t55_loop_eq (i : grid0.Coords) : k0_t55_loop i = mainLoop (clipW (loW (cW i) (sW i)) 324#32) (clipW (hiW (cW i) (sW i)) 324#32) := rfl
theorem t58_loop_eq (i : grid0.Coords) : k0_t58_loop i = remLoop (clipW (loW (cW i) (sW i)) 324#32) (clipW (hiW (cW i) (sW i)) 324#32) := rfl
theorem t55_trips (i : grid0.Coords) : (k0_t55_loop i).trips = dhi (wid i) 9 - dlo (wid i) 9 := by
  rw [t55_loop_eq]; exact field_main_trips (i 0).val (i 1).val 9 (i 0).isLt (i 1).isLt (by omega)
theorem t58_trips (i : grid0.Coords) : (k0_t58_loop i).trips = 0 := by
  rw [t58_loop_eq]; exact field_rem_trips (i 0).val (i 1).val 9 (i 0).isLt (i 1).isLt (by omega)
theorem t55_le (i : grid0.Coords) (t : Fin (k0_t55_loop i).trips) : t.val ≤ 36 := by
  have h1 := Nat.lt_of_lt_of_eq t.isLt (t55_trips i)
  have h2 := dhi_le (wid i) 9
  omega
theorem off667_eq (i : grid0.Coords) (t : Fin (k0_t55_loop i).trips) : k0_off667 i t = ![dlo (wid i) 9 + t.val, 0] := by
  show ![(Scf.iv (clipW (loW (cW i) (sW i)) 324#32) 1#32 t.val).toNat, 0] = _
  rw [field_iv_toNat (i 0).val (i 1).val 9 (i 0).isLt (i 1).isLt (by omega) t.val (t55_le i t)]; rfl
theorem off685_eq (i : grid0.Coords) (t : Fin (k0_t55_loop i).trips) : k0_off685 i t = ![324 + dlo (wid i) 9 + t.val, 0] := by
  show ![(Scalar.addi 324#32 (Scf.iv (clipW (loW (cW i) (sW i)) 324#32) 1#32 t.val)).toNat, 0] = _
  rw [field_unit_toNat (i 0).val (i 1).val 9 (i 0).isLt (i 1).isLt (by omega) t.val (t55_le i t)]; rfl
theorem off703_eq (i : grid0.Coords) (t : Fin (k0_t55_loop i).trips) : k0_off703 i t = ![324 + dlo (wid i) 9 + t.val, 8192] := by
  show ![(Scalar.addi 324#32 (Scf.iv (clipW (loW (cW i) (sW i)) 324#32) 1#32 t.val)).toNat, 8192] = _
  rw [field_unit_toNat (i 0).val (i 1).val 9 (i 0).isLt (i 1).isLt (by omega) t.val (t55_le i t)]; rfl

/-! ### Field 10 -/

theorem t61_loop_eq (i : grid0.Coords) : k0_t61_loop i = mainLoop (clipW (loW (cW i) (sW i)) 360#32) (clipW (hiW (cW i) (sW i)) 360#32) := rfl
theorem t64_loop_eq (i : grid0.Coords) : k0_t64_loop i = remLoop (clipW (loW (cW i) (sW i)) 360#32) (clipW (hiW (cW i) (sW i)) 360#32) := rfl
theorem t61_trips (i : grid0.Coords) : (k0_t61_loop i).trips = dhi (wid i) 10 - dlo (wid i) 10 := by
  rw [t61_loop_eq]; exact field_main_trips (i 0).val (i 1).val 10 (i 0).isLt (i 1).isLt (by omega)
theorem t64_trips (i : grid0.Coords) : (k0_t64_loop i).trips = 0 := by
  rw [t64_loop_eq]; exact field_rem_trips (i 0).val (i 1).val 10 (i 0).isLt (i 1).isLt (by omega)
theorem t61_le (i : grid0.Coords) (t : Fin (k0_t61_loop i).trips) : t.val ≤ 36 := by
  have h1 := Nat.lt_of_lt_of_eq t.isLt (t61_trips i)
  have h2 := dhi_le (wid i) 10
  omega
theorem off741_eq (i : grid0.Coords) (t : Fin (k0_t61_loop i).trips) : k0_off741 i t = ![dlo (wid i) 10 + t.val, 0] := by
  show ![(Scf.iv (clipW (loW (cW i) (sW i)) 360#32) 1#32 t.val).toNat, 0] = _
  rw [field_iv_toNat (i 0).val (i 1).val 10 (i 0).isLt (i 1).isLt (by omega) t.val (t61_le i t)]; rfl
theorem off759_eq (i : grid0.Coords) (t : Fin (k0_t61_loop i).trips) : k0_off759 i t = ![360 + dlo (wid i) 10 + t.val, 0] := by
  show ![(Scalar.addi 360#32 (Scf.iv (clipW (loW (cW i) (sW i)) 360#32) 1#32 t.val)).toNat, 0] = _
  rw [field_unit_toNat (i 0).val (i 1).val 10 (i 0).isLt (i 1).isLt (by omega) t.val (t61_le i t)]; rfl
theorem off777_eq (i : grid0.Coords) (t : Fin (k0_t61_loop i).trips) : k0_off777 i t = ![360 + dlo (wid i) 10 + t.val, 8192] := by
  show ![(Scalar.addi 360#32 (Scf.iv (clipW (loW (cW i) (sW i)) 360#32) 1#32 t.val)).toNat, 8192] = _
  rw [field_unit_toNat (i 0).val (i 1).val 10 (i 0).isLt (i 1).isLt (by omega) t.val (t61_le i t)]; rfl

/-! ### Field 11 -/

theorem t67_loop_eq (i : grid0.Coords) : k0_t67_loop i = mainLoop (clipW (loW (cW i) (sW i)) 396#32) (clipW (hiW (cW i) (sW i)) 396#32) := rfl
theorem t70_loop_eq (i : grid0.Coords) : k0_t70_loop i = remLoop (clipW (loW (cW i) (sW i)) 396#32) (clipW (hiW (cW i) (sW i)) 396#32) := rfl
theorem t67_trips (i : grid0.Coords) : (k0_t67_loop i).trips = dhi (wid i) 11 - dlo (wid i) 11 := by
  rw [t67_loop_eq]; exact field_main_trips (i 0).val (i 1).val 11 (i 0).isLt (i 1).isLt (by omega)
theorem t70_trips (i : grid0.Coords) : (k0_t70_loop i).trips = 0 := by
  rw [t70_loop_eq]; exact field_rem_trips (i 0).val (i 1).val 11 (i 0).isLt (i 1).isLt (by omega)
theorem t67_le (i : grid0.Coords) (t : Fin (k0_t67_loop i).trips) : t.val ≤ 36 := by
  have h1 := Nat.lt_of_lt_of_eq t.isLt (t67_trips i)
  have h2 := dhi_le (wid i) 11
  omega
theorem off815_eq (i : grid0.Coords) (t : Fin (k0_t67_loop i).trips) : k0_off815 i t = ![dlo (wid i) 11 + t.val, 0] := by
  show ![(Scf.iv (clipW (loW (cW i) (sW i)) 396#32) 1#32 t.val).toNat, 0] = _
  rw [field_iv_toNat (i 0).val (i 1).val 11 (i 0).isLt (i 1).isLt (by omega) t.val (t67_le i t)]; rfl
theorem off833_eq (i : grid0.Coords) (t : Fin (k0_t67_loop i).trips) : k0_off833 i t = ![396 + dlo (wid i) 11 + t.val, 0] := by
  show ![(Scalar.addi 396#32 (Scf.iv (clipW (loW (cW i) (sW i)) 396#32) 1#32 t.val)).toNat, 0] = _
  rw [field_unit_toNat (i 0).val (i 1).val 11 (i 0).isLt (i 1).isLt (by omega) t.val (t67_le i t)]; rfl
theorem off851_eq (i : grid0.Coords) (t : Fin (k0_t67_loop i).trips) : k0_off851 i t = ![396 + dlo (wid i) 11 + t.val, 8192] := by
  show ![(Scalar.addi 396#32 (Scf.iv (clipW (loW (cW i) (sW i)) 396#32) 1#32 t.val)).toNat, 8192] = _
  rw [field_unit_toNat (i 0).val (i 1).val 11 (i 0).isLt (i 1).isLt (by omega) t.val (t67_le i t)]; rfl

/-! ### Field 12 -/

theorem t73_loop_eq (i : grid0.Coords) : k0_t73_loop i = mainLoop (clipW (loW (cW i) (sW i)) 432#32) (clipW (hiW (cW i) (sW i)) 432#32) := rfl
theorem t76_loop_eq (i : grid0.Coords) : k0_t76_loop i = remLoop (clipW (loW (cW i) (sW i)) 432#32) (clipW (hiW (cW i) (sW i)) 432#32) := rfl
theorem t73_trips (i : grid0.Coords) : (k0_t73_loop i).trips = dhi (wid i) 12 - dlo (wid i) 12 := by
  rw [t73_loop_eq]; exact field_main_trips (i 0).val (i 1).val 12 (i 0).isLt (i 1).isLt (by omega)
theorem t76_trips (i : grid0.Coords) : (k0_t76_loop i).trips = 0 := by
  rw [t76_loop_eq]; exact field_rem_trips (i 0).val (i 1).val 12 (i 0).isLt (i 1).isLt (by omega)
theorem t73_le (i : grid0.Coords) (t : Fin (k0_t73_loop i).trips) : t.val ≤ 36 := by
  have h1 := Nat.lt_of_lt_of_eq t.isLt (t73_trips i)
  have h2 := dhi_le (wid i) 12
  omega
theorem off889_eq (i : grid0.Coords) (t : Fin (k0_t73_loop i).trips) : k0_off889 i t = ![dlo (wid i) 12 + t.val, 0] := by
  show ![(Scf.iv (clipW (loW (cW i) (sW i)) 432#32) 1#32 t.val).toNat, 0] = _
  rw [field_iv_toNat (i 0).val (i 1).val 12 (i 0).isLt (i 1).isLt (by omega) t.val (t73_le i t)]; rfl
theorem off907_eq (i : grid0.Coords) (t : Fin (k0_t73_loop i).trips) : k0_off907 i t = ![432 + dlo (wid i) 12 + t.val, 0] := by
  show ![(Scalar.addi 432#32 (Scf.iv (clipW (loW (cW i) (sW i)) 432#32) 1#32 t.val)).toNat, 0] = _
  rw [field_unit_toNat (i 0).val (i 1).val 12 (i 0).isLt (i 1).isLt (by omega) t.val (t73_le i t)]; rfl
theorem off925_eq (i : grid0.Coords) (t : Fin (k0_t73_loop i).trips) : k0_off925 i t = ![432 + dlo (wid i) 12 + t.val, 8192] := by
  show ![(Scalar.addi 432#32 (Scf.iv (clipW (loW (cW i) (sW i)) 432#32) 1#32 t.val)).toNat, 8192] = _
  rw [field_unit_toNat (i 0).val (i 1).val 12 (i 0).isLt (i 1).isLt (by omega) t.val (t73_le i t)]; rfl

/-! ### Field 13 -/

theorem t79_loop_eq (i : grid0.Coords) : k0_t79_loop i = mainLoop (clipW (loW (cW i) (sW i)) 468#32) (clipW (hiW (cW i) (sW i)) 468#32) := rfl
theorem t82_loop_eq (i : grid0.Coords) : k0_t82_loop i = remLoop (clipW (loW (cW i) (sW i)) 468#32) (clipW (hiW (cW i) (sW i)) 468#32) := rfl
theorem t79_trips (i : grid0.Coords) : (k0_t79_loop i).trips = dhi (wid i) 13 - dlo (wid i) 13 := by
  rw [t79_loop_eq]; exact field_main_trips (i 0).val (i 1).val 13 (i 0).isLt (i 1).isLt (by omega)
theorem t82_trips (i : grid0.Coords) : (k0_t82_loop i).trips = 0 := by
  rw [t82_loop_eq]; exact field_rem_trips (i 0).val (i 1).val 13 (i 0).isLt (i 1).isLt (by omega)
theorem t79_le (i : grid0.Coords) (t : Fin (k0_t79_loop i).trips) : t.val ≤ 36 := by
  have h1 := Nat.lt_of_lt_of_eq t.isLt (t79_trips i)
  have h2 := dhi_le (wid i) 13
  omega
theorem off963_eq (i : grid0.Coords) (t : Fin (k0_t79_loop i).trips) : k0_off963 i t = ![dlo (wid i) 13 + t.val, 0] := by
  show ![(Scf.iv (clipW (loW (cW i) (sW i)) 468#32) 1#32 t.val).toNat, 0] = _
  rw [field_iv_toNat (i 0).val (i 1).val 13 (i 0).isLt (i 1).isLt (by omega) t.val (t79_le i t)]; rfl
theorem off981_eq (i : grid0.Coords) (t : Fin (k0_t79_loop i).trips) : k0_off981 i t = ![468 + dlo (wid i) 13 + t.val, 0] := by
  show ![(Scalar.addi 468#32 (Scf.iv (clipW (loW (cW i) (sW i)) 468#32) 1#32 t.val)).toNat, 0] = _
  rw [field_unit_toNat (i 0).val (i 1).val 13 (i 0).isLt (i 1).isLt (by omega) t.val (t79_le i t)]; rfl
theorem off999_eq (i : grid0.Coords) (t : Fin (k0_t79_loop i).trips) : k0_off999 i t = ![468 + dlo (wid i) 13 + t.val, 8192] := by
  show ![(Scalar.addi 468#32 (Scf.iv (clipW (loW (cW i) (sW i)) 468#32) 1#32 t.val)).toNat, 8192] = _
  rw [field_unit_toNat (i 0).val (i 1).val 13 (i 0).isLt (i 1).isLt (by omega) t.val (t79_le i t)]; rfl

/-! ### Field 14 -/

theorem t85_loop_eq (i : grid0.Coords) : k0_t85_loop i = mainLoop (clipW (loW (cW i) (sW i)) 504#32) (clipW (hiW (cW i) (sW i)) 504#32) := rfl
theorem t88_loop_eq (i : grid0.Coords) : k0_t88_loop i = remLoop (clipW (loW (cW i) (sW i)) 504#32) (clipW (hiW (cW i) (sW i)) 504#32) := rfl
theorem t85_trips (i : grid0.Coords) : (k0_t85_loop i).trips = dhi (wid i) 14 - dlo (wid i) 14 := by
  rw [t85_loop_eq]; exact field_main_trips (i 0).val (i 1).val 14 (i 0).isLt (i 1).isLt (by omega)
theorem t88_trips (i : grid0.Coords) : (k0_t88_loop i).trips = 0 := by
  rw [t88_loop_eq]; exact field_rem_trips (i 0).val (i 1).val 14 (i 0).isLt (i 1).isLt (by omega)
theorem t85_le (i : grid0.Coords) (t : Fin (k0_t85_loop i).trips) : t.val ≤ 36 := by
  have h1 := Nat.lt_of_lt_of_eq t.isLt (t85_trips i)
  have h2 := dhi_le (wid i) 14
  omega
theorem off1037_eq (i : grid0.Coords) (t : Fin (k0_t85_loop i).trips) : k0_off1037 i t = ![dlo (wid i) 14 + t.val, 0] := by
  show ![(Scf.iv (clipW (loW (cW i) (sW i)) 504#32) 1#32 t.val).toNat, 0] = _
  rw [field_iv_toNat (i 0).val (i 1).val 14 (i 0).isLt (i 1).isLt (by omega) t.val (t85_le i t)]; rfl
theorem off1055_eq (i : grid0.Coords) (t : Fin (k0_t85_loop i).trips) : k0_off1055 i t = ![504 + dlo (wid i) 14 + t.val, 0] := by
  show ![(Scalar.addi 504#32 (Scf.iv (clipW (loW (cW i) (sW i)) 504#32) 1#32 t.val)).toNat, 0] = _
  rw [field_unit_toNat (i 0).val (i 1).val 14 (i 0).isLt (i 1).isLt (by omega) t.val (t85_le i t)]; rfl
theorem off1073_eq (i : grid0.Coords) (t : Fin (k0_t85_loop i).trips) : k0_off1073 i t = ![504 + dlo (wid i) 14 + t.val, 8192] := by
  show ![(Scalar.addi 504#32 (Scf.iv (clipW (loW (cW i) (sW i)) 504#32) 1#32 t.val)).toNat, 8192] = _
  rw [field_unit_toNat (i 0).val (i 1).val 14 (i 0).isLt (i 1).isLt (by omega) t.val (t85_le i t)]; rfl

/-! ### Field 15 -/

theorem t91_loop_eq (i : grid0.Coords) : k0_t91_loop i = mainLoop (clipW (loW (cW i) (sW i)) 540#32) (clipW (hiW (cW i) (sW i)) 540#32) := rfl
theorem t94_loop_eq (i : grid0.Coords) : k0_t94_loop i = remLoop (clipW (loW (cW i) (sW i)) 540#32) (clipW (hiW (cW i) (sW i)) 540#32) := rfl
theorem t91_trips (i : grid0.Coords) : (k0_t91_loop i).trips = dhi (wid i) 15 - dlo (wid i) 15 := by
  rw [t91_loop_eq]; exact field_main_trips (i 0).val (i 1).val 15 (i 0).isLt (i 1).isLt (by omega)
theorem t94_trips (i : grid0.Coords) : (k0_t94_loop i).trips = 0 := by
  rw [t94_loop_eq]; exact field_rem_trips (i 0).val (i 1).val 15 (i 0).isLt (i 1).isLt (by omega)
theorem t91_le (i : grid0.Coords) (t : Fin (k0_t91_loop i).trips) : t.val ≤ 36 := by
  have h1 := Nat.lt_of_lt_of_eq t.isLt (t91_trips i)
  have h2 := dhi_le (wid i) 15
  omega
theorem off1111_eq (i : grid0.Coords) (t : Fin (k0_t91_loop i).trips) : k0_off1111 i t = ![dlo (wid i) 15 + t.val, 0] := by
  show ![(Scf.iv (clipW (loW (cW i) (sW i)) 540#32) 1#32 t.val).toNat, 0] = _
  rw [field_iv_toNat (i 0).val (i 1).val 15 (i 0).isLt (i 1).isLt (by omega) t.val (t91_le i t)]; rfl
theorem off1129_eq (i : grid0.Coords) (t : Fin (k0_t91_loop i).trips) : k0_off1129 i t = ![540 + dlo (wid i) 15 + t.val, 0] := by
  show ![(Scalar.addi 540#32 (Scf.iv (clipW (loW (cW i) (sW i)) 540#32) 1#32 t.val)).toNat, 0] = _
  rw [field_unit_toNat (i 0).val (i 1).val 15 (i 0).isLt (i 1).isLt (by omega) t.val (t91_le i t)]; rfl
theorem off1147_eq (i : grid0.Coords) (t : Fin (k0_t91_loop i).trips) : k0_off1147 i t = ![540 + dlo (wid i) 15 + t.val, 8192] := by
  show ![(Scalar.addi 540#32 (Scf.iv (clipW (loW (cW i) (sW i)) 540#32) 1#32 t.val)).toNat, 8192] = _
  rw [field_unit_toNat (i 0).val (i 1).val 15 (i 0).isLt (i 1).isLt (by omega) t.val (t91_le i t)]; rfl

/-! ### Field 16 -/

theorem t97_loop_eq (i : grid0.Coords) : k0_t97_loop i = mainLoop (clipW (loW (cW i) (sW i)) 576#32) (clipW (hiW (cW i) (sW i)) 576#32) := rfl
theorem t100_loop_eq (i : grid0.Coords) : k0_t100_loop i = remLoop (clipW (loW (cW i) (sW i)) 576#32) (clipW (hiW (cW i) (sW i)) 576#32) := rfl
theorem t97_trips (i : grid0.Coords) : (k0_t97_loop i).trips = dhi (wid i) 16 - dlo (wid i) 16 := by
  rw [t97_loop_eq]; exact field_main_trips (i 0).val (i 1).val 16 (i 0).isLt (i 1).isLt (by omega)
theorem t100_trips (i : grid0.Coords) : (k0_t100_loop i).trips = 0 := by
  rw [t100_loop_eq]; exact field_rem_trips (i 0).val (i 1).val 16 (i 0).isLt (i 1).isLt (by omega)
theorem t97_le (i : grid0.Coords) (t : Fin (k0_t97_loop i).trips) : t.val ≤ 36 := by
  have h1 := Nat.lt_of_lt_of_eq t.isLt (t97_trips i)
  have h2 := dhi_le (wid i) 16
  omega
theorem off1185_eq (i : grid0.Coords) (t : Fin (k0_t97_loop i).trips) : k0_off1185 i t = ![dlo (wid i) 16 + t.val, 0] := by
  show ![(Scf.iv (clipW (loW (cW i) (sW i)) 576#32) 1#32 t.val).toNat, 0] = _
  rw [field_iv_toNat (i 0).val (i 1).val 16 (i 0).isLt (i 1).isLt (by omega) t.val (t97_le i t)]; rfl
theorem off1203_eq (i : grid0.Coords) (t : Fin (k0_t97_loop i).trips) : k0_off1203 i t = ![576 + dlo (wid i) 16 + t.val, 0] := by
  show ![(Scalar.addi 576#32 (Scf.iv (clipW (loW (cW i) (sW i)) 576#32) 1#32 t.val)).toNat, 0] = _
  rw [field_unit_toNat (i 0).val (i 1).val 16 (i 0).isLt (i 1).isLt (by omega) t.val (t97_le i t)]; rfl
theorem off1221_eq (i : grid0.Coords) (t : Fin (k0_t97_loop i).trips) : k0_off1221 i t = ![576 + dlo (wid i) 16 + t.val, 8192] := by
  show ![(Scalar.addi 576#32 (Scf.iv (clipW (loW (cW i) (sW i)) 576#32) 1#32 t.val)).toNat, 8192] = _
  rw [field_unit_toNat (i 0).val (i 1).val 16 (i 0).isLt (i 1).isLt (by omega) t.val (t97_le i t)]; rfl

/-! ### Field 17 -/

theorem t103_loop_eq (i : grid0.Coords) : k0_t103_loop i = mainLoop (clipW (loW (cW i) (sW i)) 612#32) (clipW (hiW (cW i) (sW i)) 612#32) := rfl
theorem t106_loop_eq (i : grid0.Coords) : k0_t106_loop i = remLoop (clipW (loW (cW i) (sW i)) 612#32) (clipW (hiW (cW i) (sW i)) 612#32) := rfl
theorem t103_trips (i : grid0.Coords) : (k0_t103_loop i).trips = dhi (wid i) 17 - dlo (wid i) 17 := by
  rw [t103_loop_eq]; exact field_main_trips (i 0).val (i 1).val 17 (i 0).isLt (i 1).isLt (by omega)
theorem t106_trips (i : grid0.Coords) : (k0_t106_loop i).trips = 0 := by
  rw [t106_loop_eq]; exact field_rem_trips (i 0).val (i 1).val 17 (i 0).isLt (i 1).isLt (by omega)
theorem t103_le (i : grid0.Coords) (t : Fin (k0_t103_loop i).trips) : t.val ≤ 36 := by
  have h1 := Nat.lt_of_lt_of_eq t.isLt (t103_trips i)
  have h2 := dhi_le (wid i) 17
  omega
theorem off1259_eq (i : grid0.Coords) (t : Fin (k0_t103_loop i).trips) : k0_off1259 i t = ![dlo (wid i) 17 + t.val, 0] := by
  show ![(Scf.iv (clipW (loW (cW i) (sW i)) 612#32) 1#32 t.val).toNat, 0] = _
  rw [field_iv_toNat (i 0).val (i 1).val 17 (i 0).isLt (i 1).isLt (by omega) t.val (t103_le i t)]; rfl
theorem off1277_eq (i : grid0.Coords) (t : Fin (k0_t103_loop i).trips) : k0_off1277 i t = ![612 + dlo (wid i) 17 + t.val, 0] := by
  show ![(Scalar.addi 612#32 (Scf.iv (clipW (loW (cW i) (sW i)) 612#32) 1#32 t.val)).toNat, 0] = _
  rw [field_unit_toNat (i 0).val (i 1).val 17 (i 0).isLt (i 1).isLt (by omega) t.val (t103_le i t)]; rfl
theorem off1295_eq (i : grid0.Coords) (t : Fin (k0_t103_loop i).trips) : k0_off1295 i t = ![612 + dlo (wid i) 17 + t.val, 8192] := by
  show ![(Scalar.addi 612#32 (Scf.iv (clipW (loW (cW i) (sW i)) 612#32) 1#32 t.val)).toNat, 8192] = _
  rw [field_unit_toNat (i 0).val (i 1).val 17 (i 0).isLt (i 1).isLt (by omega) t.val (t103_le i t)]; rfl

/-! ### Field 18 -/

theorem t109_loop_eq (i : grid0.Coords) : k0_t109_loop i = mainLoop (clipW (loW (cW i) (sW i)) 648#32) (clipW (hiW (cW i) (sW i)) 648#32) := rfl
theorem t112_loop_eq (i : grid0.Coords) : k0_t112_loop i = remLoop (clipW (loW (cW i) (sW i)) 648#32) (clipW (hiW (cW i) (sW i)) 648#32) := rfl
theorem t109_trips (i : grid0.Coords) : (k0_t109_loop i).trips = dhi (wid i) 18 - dlo (wid i) 18 := by
  rw [t109_loop_eq]; exact field_main_trips (i 0).val (i 1).val 18 (i 0).isLt (i 1).isLt (by omega)
theorem t112_trips (i : grid0.Coords) : (k0_t112_loop i).trips = 0 := by
  rw [t112_loop_eq]; exact field_rem_trips (i 0).val (i 1).val 18 (i 0).isLt (i 1).isLt (by omega)
theorem t109_le (i : grid0.Coords) (t : Fin (k0_t109_loop i).trips) : t.val ≤ 36 := by
  have h1 := Nat.lt_of_lt_of_eq t.isLt (t109_trips i)
  have h2 := dhi_le (wid i) 18
  omega
theorem off1333_eq (i : grid0.Coords) (t : Fin (k0_t109_loop i).trips) : k0_off1333 i t = ![dlo (wid i) 18 + t.val, 0] := by
  show ![(Scf.iv (clipW (loW (cW i) (sW i)) 648#32) 1#32 t.val).toNat, 0] = _
  rw [field_iv_toNat (i 0).val (i 1).val 18 (i 0).isLt (i 1).isLt (by omega) t.val (t109_le i t)]; rfl
theorem off1351_eq (i : grid0.Coords) (t : Fin (k0_t109_loop i).trips) : k0_off1351 i t = ![648 + dlo (wid i) 18 + t.val, 0] := by
  show ![(Scalar.addi 648#32 (Scf.iv (clipW (loW (cW i) (sW i)) 648#32) 1#32 t.val)).toNat, 0] = _
  rw [field_unit_toNat (i 0).val (i 1).val 18 (i 0).isLt (i 1).isLt (by omega) t.val (t109_le i t)]; rfl
theorem off1369_eq (i : grid0.Coords) (t : Fin (k0_t109_loop i).trips) : k0_off1369 i t = ![648 + dlo (wid i) 18 + t.val, 8192] := by
  show ![(Scalar.addi 648#32 (Scf.iv (clipW (loW (cW i) (sW i)) 648#32) 1#32 t.val)).toNat, 8192] = _
  rw [field_unit_toNat (i 0).val (i 1).val 18 (i 0).isLt (i 1).isLt (by omega) t.val (t109_le i t)]; rfl

/-! ### Field 19 -/

theorem t115_loop_eq (i : grid0.Coords) : k0_t115_loop i = mainLoop (clipW (loW (cW i) (sW i)) 684#32) (clipW (hiW (cW i) (sW i)) 684#32) := rfl
theorem t118_loop_eq (i : grid0.Coords) : k0_t118_loop i = remLoop (clipW (loW (cW i) (sW i)) 684#32) (clipW (hiW (cW i) (sW i)) 684#32) := rfl
theorem t115_trips (i : grid0.Coords) : (k0_t115_loop i).trips = dhi (wid i) 19 - dlo (wid i) 19 := by
  rw [t115_loop_eq]; exact field_main_trips (i 0).val (i 1).val 19 (i 0).isLt (i 1).isLt (by omega)
theorem t118_trips (i : grid0.Coords) : (k0_t118_loop i).trips = 0 := by
  rw [t118_loop_eq]; exact field_rem_trips (i 0).val (i 1).val 19 (i 0).isLt (i 1).isLt (by omega)
theorem t115_le (i : grid0.Coords) (t : Fin (k0_t115_loop i).trips) : t.val ≤ 36 := by
  have h1 := Nat.lt_of_lt_of_eq t.isLt (t115_trips i)
  have h2 := dhi_le (wid i) 19
  omega
theorem off1407_eq (i : grid0.Coords) (t : Fin (k0_t115_loop i).trips) : k0_off1407 i t = ![dlo (wid i) 19 + t.val, 0] := by
  show ![(Scf.iv (clipW (loW (cW i) (sW i)) 684#32) 1#32 t.val).toNat, 0] = _
  rw [field_iv_toNat (i 0).val (i 1).val 19 (i 0).isLt (i 1).isLt (by omega) t.val (t115_le i t)]; rfl
theorem off1425_eq (i : grid0.Coords) (t : Fin (k0_t115_loop i).trips) : k0_off1425 i t = ![684 + dlo (wid i) 19 + t.val, 0] := by
  show ![(Scalar.addi 684#32 (Scf.iv (clipW (loW (cW i) (sW i)) 684#32) 1#32 t.val)).toNat, 0] = _
  rw [field_unit_toNat (i 0).val (i 1).val 19 (i 0).isLt (i 1).isLt (by omega) t.val (t115_le i t)]; rfl
theorem off1443_eq (i : grid0.Coords) (t : Fin (k0_t115_loop i).trips) : k0_off1443 i t = ![684 + dlo (wid i) 19 + t.val, 8192] := by
  show ![(Scalar.addi 684#32 (Scf.iv (clipW (loW (cW i) (sW i)) 684#32) 1#32 t.val)).toNat, 8192] = _
  rw [field_unit_toNat (i 0).val (i 1).val 19 (i 0).isLt (i 1).isLt (by omega) t.val (t115_le i t)]; rfl

/-! ### Field 20 -/

theorem t121_loop_eq (i : grid0.Coords) : k0_t121_loop i = mainLoop (clipW (loW (cW i) (sW i)) 720#32) (clipW (hiW (cW i) (sW i)) 720#32) := rfl
theorem t124_loop_eq (i : grid0.Coords) : k0_t124_loop i = remLoop (clipW (loW (cW i) (sW i)) 720#32) (clipW (hiW (cW i) (sW i)) 720#32) := rfl
theorem t121_trips (i : grid0.Coords) : (k0_t121_loop i).trips = dhi (wid i) 20 - dlo (wid i) 20 := by
  rw [t121_loop_eq]; exact field_main_trips (i 0).val (i 1).val 20 (i 0).isLt (i 1).isLt (by omega)
theorem t124_trips (i : grid0.Coords) : (k0_t124_loop i).trips = 0 := by
  rw [t124_loop_eq]; exact field_rem_trips (i 0).val (i 1).val 20 (i 0).isLt (i 1).isLt (by omega)
theorem t121_le (i : grid0.Coords) (t : Fin (k0_t121_loop i).trips) : t.val ≤ 36 := by
  have h1 := Nat.lt_of_lt_of_eq t.isLt (t121_trips i)
  have h2 := dhi_le (wid i) 20
  omega
theorem off1481_eq (i : grid0.Coords) (t : Fin (k0_t121_loop i).trips) : k0_off1481 i t = ![dlo (wid i) 20 + t.val, 0] := by
  show ![(Scf.iv (clipW (loW (cW i) (sW i)) 720#32) 1#32 t.val).toNat, 0] = _
  rw [field_iv_toNat (i 0).val (i 1).val 20 (i 0).isLt (i 1).isLt (by omega) t.val (t121_le i t)]; rfl
theorem off1499_eq (i : grid0.Coords) (t : Fin (k0_t121_loop i).trips) : k0_off1499 i t = ![720 + dlo (wid i) 20 + t.val, 0] := by
  show ![(Scalar.addi 720#32 (Scf.iv (clipW (loW (cW i) (sW i)) 720#32) 1#32 t.val)).toNat, 0] = _
  rw [field_unit_toNat (i 0).val (i 1).val 20 (i 0).isLt (i 1).isLt (by omega) t.val (t121_le i t)]; rfl
theorem off1517_eq (i : grid0.Coords) (t : Fin (k0_t121_loop i).trips) : k0_off1517 i t = ![720 + dlo (wid i) 20 + t.val, 8192] := by
  show ![(Scalar.addi 720#32 (Scf.iv (clipW (loW (cW i) (sW i)) 720#32) 1#32 t.val)).toNat, 8192] = _
  rw [field_unit_toNat (i 0).val (i 1).val 20 (i 0).isLt (i 1).isLt (by omega) t.val (t121_le i t)]; rfl

/-! ### Field 21 -/

theorem t127_loop_eq (i : grid0.Coords) : k0_t127_loop i = mainLoop (clipW (loW (cW i) (sW i)) 756#32) (clipW (hiW (cW i) (sW i)) 756#32) := rfl
theorem t130_loop_eq (i : grid0.Coords) : k0_t130_loop i = remLoop (clipW (loW (cW i) (sW i)) 756#32) (clipW (hiW (cW i) (sW i)) 756#32) := rfl
theorem t127_trips (i : grid0.Coords) : (k0_t127_loop i).trips = dhi (wid i) 21 - dlo (wid i) 21 := by
  rw [t127_loop_eq]; exact field_main_trips (i 0).val (i 1).val 21 (i 0).isLt (i 1).isLt (by omega)
theorem t130_trips (i : grid0.Coords) : (k0_t130_loop i).trips = 0 := by
  rw [t130_loop_eq]; exact field_rem_trips (i 0).val (i 1).val 21 (i 0).isLt (i 1).isLt (by omega)
theorem t127_le (i : grid0.Coords) (t : Fin (k0_t127_loop i).trips) : t.val ≤ 36 := by
  have h1 := Nat.lt_of_lt_of_eq t.isLt (t127_trips i)
  have h2 := dhi_le (wid i) 21
  omega
theorem off1555_eq (i : grid0.Coords) (t : Fin (k0_t127_loop i).trips) : k0_off1555 i t = ![dlo (wid i) 21 + t.val, 0] := by
  show ![(Scf.iv (clipW (loW (cW i) (sW i)) 756#32) 1#32 t.val).toNat, 0] = _
  rw [field_iv_toNat (i 0).val (i 1).val 21 (i 0).isLt (i 1).isLt (by omega) t.val (t127_le i t)]; rfl
theorem off1573_eq (i : grid0.Coords) (t : Fin (k0_t127_loop i).trips) : k0_off1573 i t = ![756 + dlo (wid i) 21 + t.val, 0] := by
  show ![(Scalar.addi 756#32 (Scf.iv (clipW (loW (cW i) (sW i)) 756#32) 1#32 t.val)).toNat, 0] = _
  rw [field_unit_toNat (i 0).val (i 1).val 21 (i 0).isLt (i 1).isLt (by omega) t.val (t127_le i t)]; rfl
theorem off1591_eq (i : grid0.Coords) (t : Fin (k0_t127_loop i).trips) : k0_off1591 i t = ![756 + dlo (wid i) 21 + t.val, 8192] := by
  show ![(Scalar.addi 756#32 (Scf.iv (clipW (loW (cW i) (sW i)) 756#32) 1#32 t.val)).toNat, 8192] = _
  rw [field_unit_toNat (i 0).val (i 1).val 21 (i 0).isLt (i 1).isLt (by omega) t.val (t127_le i t)]; rfl

/-! ### Field 22 -/

theorem t133_loop_eq (i : grid0.Coords) : k0_t133_loop i = mainLoop (clipW (loW (cW i) (sW i)) 792#32) (clipW (hiW (cW i) (sW i)) 792#32) := rfl
theorem t136_loop_eq (i : grid0.Coords) : k0_t136_loop i = remLoop (clipW (loW (cW i) (sW i)) 792#32) (clipW (hiW (cW i) (sW i)) 792#32) := rfl
theorem t133_trips (i : grid0.Coords) : (k0_t133_loop i).trips = dhi (wid i) 22 - dlo (wid i) 22 := by
  rw [t133_loop_eq]; exact field_main_trips (i 0).val (i 1).val 22 (i 0).isLt (i 1).isLt (by omega)
theorem t136_trips (i : grid0.Coords) : (k0_t136_loop i).trips = 0 := by
  rw [t136_loop_eq]; exact field_rem_trips (i 0).val (i 1).val 22 (i 0).isLt (i 1).isLt (by omega)
theorem t133_le (i : grid0.Coords) (t : Fin (k0_t133_loop i).trips) : t.val ≤ 36 := by
  have h1 := Nat.lt_of_lt_of_eq t.isLt (t133_trips i)
  have h2 := dhi_le (wid i) 22
  omega
theorem off1629_eq (i : grid0.Coords) (t : Fin (k0_t133_loop i).trips) : k0_off1629 i t = ![dlo (wid i) 22 + t.val, 0] := by
  show ![(Scf.iv (clipW (loW (cW i) (sW i)) 792#32) 1#32 t.val).toNat, 0] = _
  rw [field_iv_toNat (i 0).val (i 1).val 22 (i 0).isLt (i 1).isLt (by omega) t.val (t133_le i t)]; rfl
theorem off1647_eq (i : grid0.Coords) (t : Fin (k0_t133_loop i).trips) : k0_off1647 i t = ![792 + dlo (wid i) 22 + t.val, 0] := by
  show ![(Scalar.addi 792#32 (Scf.iv (clipW (loW (cW i) (sW i)) 792#32) 1#32 t.val)).toNat, 0] = _
  rw [field_unit_toNat (i 0).val (i 1).val 22 (i 0).isLt (i 1).isLt (by omega) t.val (t133_le i t)]; rfl
theorem off1665_eq (i : grid0.Coords) (t : Fin (k0_t133_loop i).trips) : k0_off1665 i t = ![792 + dlo (wid i) 22 + t.val, 8192] := by
  show ![(Scalar.addi 792#32 (Scf.iv (clipW (loW (cW i) (sW i)) 792#32) 1#32 t.val)).toNat, 8192] = _
  rw [field_unit_toNat (i 0).val (i 1).val 22 (i 0).isLt (i 1).isLt (by omega) t.val (t133_le i t)]; rfl

/-! ### Field 23 -/

theorem t139_loop_eq (i : grid0.Coords) : k0_t139_loop i = mainLoop (clipW (loW (cW i) (sW i)) 828#32) (clipW (hiW (cW i) (sW i)) 828#32) := rfl
theorem t142_loop_eq (i : grid0.Coords) : k0_t142_loop i = remLoop (clipW (loW (cW i) (sW i)) 828#32) (clipW (hiW (cW i) (sW i)) 828#32) := rfl
theorem t139_trips (i : grid0.Coords) : (k0_t139_loop i).trips = dhi (wid i) 23 - dlo (wid i) 23 := by
  rw [t139_loop_eq]; exact field_main_trips (i 0).val (i 1).val 23 (i 0).isLt (i 1).isLt (by omega)
theorem t142_trips (i : grid0.Coords) : (k0_t142_loop i).trips = 0 := by
  rw [t142_loop_eq]; exact field_rem_trips (i 0).val (i 1).val 23 (i 0).isLt (i 1).isLt (by omega)
theorem t139_le (i : grid0.Coords) (t : Fin (k0_t139_loop i).trips) : t.val ≤ 36 := by
  have h1 := Nat.lt_of_lt_of_eq t.isLt (t139_trips i)
  have h2 := dhi_le (wid i) 23
  omega
theorem off1703_eq (i : grid0.Coords) (t : Fin (k0_t139_loop i).trips) : k0_off1703 i t = ![dlo (wid i) 23 + t.val, 0] := by
  show ![(Scf.iv (clipW (loW (cW i) (sW i)) 828#32) 1#32 t.val).toNat, 0] = _
  rw [field_iv_toNat (i 0).val (i 1).val 23 (i 0).isLt (i 1).isLt (by omega) t.val (t139_le i t)]; rfl
theorem off1721_eq (i : grid0.Coords) (t : Fin (k0_t139_loop i).trips) : k0_off1721 i t = ![828 + dlo (wid i) 23 + t.val, 0] := by
  show ![(Scalar.addi 828#32 (Scf.iv (clipW (loW (cW i) (sW i)) 828#32) 1#32 t.val)).toNat, 0] = _
  rw [field_unit_toNat (i 0).val (i 1).val 23 (i 0).isLt (i 1).isLt (by omega) t.val (t139_le i t)]; rfl
theorem off1739_eq (i : grid0.Coords) (t : Fin (k0_t139_loop i).trips) : k0_off1739 i t = ![828 + dlo (wid i) 23 + t.val, 8192] := by
  show ![(Scalar.addi 828#32 (Scf.iv (clipW (loW (cW i) (sW i)) 828#32) 1#32 t.val)).toNat, 8192] = _
  rw [field_unit_toNat (i 0).val (i 1).val 23 (i 0).isLt (i 1).isLt (by omega) t.val (t139_le i t)]; rfl

/-! ### Field 24 -/

theorem t145_loop_eq (i : grid0.Coords) : k0_t145_loop i = mainLoop (clipW (loW (cW i) (sW i)) 864#32) (clipW (hiW (cW i) (sW i)) 864#32) := rfl
theorem t148_loop_eq (i : grid0.Coords) : k0_t148_loop i = remLoop (clipW (loW (cW i) (sW i)) 864#32) (clipW (hiW (cW i) (sW i)) 864#32) := rfl
theorem t145_trips (i : grid0.Coords) : (k0_t145_loop i).trips = dhi (wid i) 24 - dlo (wid i) 24 := by
  rw [t145_loop_eq]; exact field_main_trips (i 0).val (i 1).val 24 (i 0).isLt (i 1).isLt (by omega)
theorem t148_trips (i : grid0.Coords) : (k0_t148_loop i).trips = 0 := by
  rw [t148_loop_eq]; exact field_rem_trips (i 0).val (i 1).val 24 (i 0).isLt (i 1).isLt (by omega)
theorem t145_le (i : grid0.Coords) (t : Fin (k0_t145_loop i).trips) : t.val ≤ 36 := by
  have h1 := Nat.lt_of_lt_of_eq t.isLt (t145_trips i)
  have h2 := dhi_le (wid i) 24
  omega
theorem off1777_eq (i : grid0.Coords) (t : Fin (k0_t145_loop i).trips) : k0_off1777 i t = ![dlo (wid i) 24 + t.val, 0] := by
  show ![(Scf.iv (clipW (loW (cW i) (sW i)) 864#32) 1#32 t.val).toNat, 0] = _
  rw [field_iv_toNat (i 0).val (i 1).val 24 (i 0).isLt (i 1).isLt (by omega) t.val (t145_le i t)]; rfl
theorem off1795_eq (i : grid0.Coords) (t : Fin (k0_t145_loop i).trips) : k0_off1795 i t = ![864 + dlo (wid i) 24 + t.val, 0] := by
  show ![(Scalar.addi 864#32 (Scf.iv (clipW (loW (cW i) (sW i)) 864#32) 1#32 t.val)).toNat, 0] = _
  rw [field_unit_toNat (i 0).val (i 1).val 24 (i 0).isLt (i 1).isLt (by omega) t.val (t145_le i t)]; rfl
theorem off1813_eq (i : grid0.Coords) (t : Fin (k0_t145_loop i).trips) : k0_off1813 i t = ![864 + dlo (wid i) 24 + t.val, 8192] := by
  show ![(Scalar.addi 864#32 (Scf.iv (clipW (loW (cW i) (sW i)) 864#32) 1#32 t.val)).toNat, 8192] = _
  rw [field_unit_toNat (i 0).val (i 1).val 24 (i 0).isLt (i 1).isLt (by omega) t.val (t145_le i t)]; rfl

/-! ### Field 25 -/

theorem t151_loop_eq (i : grid0.Coords) : k0_t151_loop i = mainLoop (clipW (loW (cW i) (sW i)) 900#32) (clipW (hiW (cW i) (sW i)) 900#32) := rfl
theorem t154_loop_eq (i : grid0.Coords) : k0_t154_loop i = remLoop (clipW (loW (cW i) (sW i)) 900#32) (clipW (hiW (cW i) (sW i)) 900#32) := rfl
theorem t151_trips (i : grid0.Coords) : (k0_t151_loop i).trips = dhi (wid i) 25 - dlo (wid i) 25 := by
  rw [t151_loop_eq]; exact field_main_trips (i 0).val (i 1).val 25 (i 0).isLt (i 1).isLt (by omega)
theorem t154_trips (i : grid0.Coords) : (k0_t154_loop i).trips = 0 := by
  rw [t154_loop_eq]; exact field_rem_trips (i 0).val (i 1).val 25 (i 0).isLt (i 1).isLt (by omega)
theorem t151_le (i : grid0.Coords) (t : Fin (k0_t151_loop i).trips) : t.val ≤ 36 := by
  have h1 := Nat.lt_of_lt_of_eq t.isLt (t151_trips i)
  have h2 := dhi_le (wid i) 25
  omega
theorem off1851_eq (i : grid0.Coords) (t : Fin (k0_t151_loop i).trips) : k0_off1851 i t = ![dlo (wid i) 25 + t.val, 0] := by
  show ![(Scf.iv (clipW (loW (cW i) (sW i)) 900#32) 1#32 t.val).toNat, 0] = _
  rw [field_iv_toNat (i 0).val (i 1).val 25 (i 0).isLt (i 1).isLt (by omega) t.val (t151_le i t)]; rfl
theorem off1869_eq (i : grid0.Coords) (t : Fin (k0_t151_loop i).trips) : k0_off1869 i t = ![900 + dlo (wid i) 25 + t.val, 0] := by
  show ![(Scalar.addi 900#32 (Scf.iv (clipW (loW (cW i) (sW i)) 900#32) 1#32 t.val)).toNat, 0] = _
  rw [field_unit_toNat (i 0).val (i 1).val 25 (i 0).isLt (i 1).isLt (by omega) t.val (t151_le i t)]; rfl
theorem off1887_eq (i : grid0.Coords) (t : Fin (k0_t151_loop i).trips) : k0_off1887 i t = ![900 + dlo (wid i) 25 + t.val, 8192] := by
  show ![(Scalar.addi 900#32 (Scf.iv (clipW (loW (cW i) (sW i)) 900#32) 1#32 t.val)).toNat, 8192] = _
  rw [field_unit_toNat (i 0).val (i 1).val 25 (i 0).isLt (i 1).isLt (by omega) t.val (t151_le i t)]; rfl

end Cert.KernelIdeal.UnitArithK
-- ==== Proof.BodyTopBase.lean ====
/-
  The tile's whole function, field by field.

  A tile (tile w = 2 s + c) owns rows [lo w, hi w) of the 936-row output array.  For each of the 26 fields in turn the
  function clips the tile's range to the field's 36 rows, fetches the field's row of the index array into the two index
  scratches when the clipped range is not empty, runs the field's loop over the clipped range (one output row per trip:
  the table row gathered at the index words), and a remainder loop that never has a trip.  The invariant between fields:
  the tile's rows below field j hold the specification's values and the others are untouched; the tables and the index
  array are read shares, whole; the four scratch buffers are held at some contents; every scoped semaphore is at zero.
-/
import proofs.«204037_g66941360275737_cont_sun_c4_657_24_alg».proof.KernelIdeal
import proofs.«204037_g66941360275737_cont_sun_c4_657_24_alg».proof.Proof.Gen.KernelIdeal
import proofs.«204037_g66941360275737_cont_sun_c4_657_24_alg».proof.Proof.Gen.KernelIdeal.Skeleton
import proofs.«204037_g66941360275737_cont_sun_c4_657_24_alg».proof.Proof.BodyFetch
import proofs.«204037_g66941360275737_cont_sun_c4_657_24_alg».proof.Proof.Spec
import proofs.«204037_g66941360275737_cont_sun_c4_657_24_alg».proof.Proof.UnitArith
import proofs.«204037_g66941360275737_cont_sun_c4_657_24_alg».proof.Proof.UnitArithK
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

abbrev UH : Type := URounds (GSem nD τ sig) ℕ
abbrev UU : Type := UH × Counters

local notation "𝕄" => MT nD τ sig (HIx 1) (Elt F) ℕ UU ℕ

open Cert.UnitArith Cert.KernelIdeal.UnitArithK

variable (L : grid0.Coords) (d : Dev nD) (defs : Defs nD τ sig (Elt F) Λ₀)

abbrev thr : Thread nD τ := V d ((L 0).castLE hcore0) ((L 1).castLE hsub0)
abbrev PT (α : Type) := Prog (TpuEff nD τ sig (Elt F) Λ₀ (.scVector ((L 0).castLE hcore0) ((L 1).castLE hsub0))) α

abbrev mX : Memref sig .scVector .hbm S26x16384 .i32 := Memref.whole main_v0_scv
abbrev mO : Memref sig .scVector .hbm S936x16384 .f32 := Memref.whole main_v27_scv
abbrev mRow : Memref sig .scVector .vmem S100000 .f32 := Memref.whole cc0_scratch0
abbrev mIa : Memref sig .scVector .vmem S8192 .i32 := Memref.whole cc0_scratch1
abbrev mIb : Memref sig .scVector .vmem S8192 .i32 := Memref.whole cc0_scratch2
abbrev mOch : Memref sig .scVector .vmem S8192 .f32 := Memref.whole cc0_scratch3

/-- The tile's rows of the output array. -/
def rowsSet (lo hi : ℕ) : Finset S936x16384.Idx := Finset.univ.filter fun x => lo ≤ (x 0).val ∧ (x 0).val < hi
theorem mem_rowsSet {lo hi : ℕ} {x : S936x16384.Idx} : x ∈ rowsSet lo hi ↔ lo ≤ (x 0).val ∧ (x 0).val < hi := by
  unfold rowsSet; rw [Finset.mem_filter]; exact ⟨fun h => h.2, fun h => ⟨Finset.mem_univ _, h⟩⟩

/-- What a field's main loop is asked to do, as a rule for the loop at the head of a program: from the field's table, the
    two index scratches holding the field's index row when the loop has a trip, and the tile's output rows, it
    leaves the rows of the field that the tile owns, [36 j + dlo, 36 j + dlo + trips), at the selected table entries and every other row as it was. -/
def DRule (j : ℕ) (hj : j < 26) (Tpt : PosShare TreeShare → (S36x100000.Idx → Elt F .f32) → sProp 𝕄) (s1 s2 s3 : DmaSems sig S_)
    (l : Scf.Loop 32) (hok : l.OK) (body : Fin l.trips → BitVec 32 → PT (F := F) L (BitVec 32)) : Prop :=
  ∀ {α : Type} (kk : BitVec 32 → PT (F := F) L α) (Q : α → sProp 𝕄)
    (O : CellTallies nD τ sig (HIx 1)) (W0 W : Waits sig (HIx 1)) (q : PosShare TreeShare)
    (fx : S26x16384.Idx → BitVec 32) (ft : S36x100000.Idx → Elt F .f32)
    (fr : Buf (Elt F) ((mRow).view.loc (thr L d))) (fo : Buf (Elt F) ((mOch).view.loc (thr L d)))
    (fa : Buf (Elt F) ((mIa).view.loc (thr L d))) (fb : Buf (Elt F) ((mIb).view.loc (thr L d)))
    (g0 : Buf (Elt F) ((mO).view.loc (thr L d))),
    (∀ p ∈ W, p ∈ W0 ∨ p.2 = none) →
    (∀ y, (fx y).toNat < 100000) →
    (0 < l.trips → (∀ (b : ℕ) (hb : b < 8192), (mIa).view.read (Elt F) fa (ix1 ⟨b, hb⟩) = fx (ix2 ⟨j, hj⟩ ⟨b, by omega⟩))
        ∧ (∀ (b : ℕ) (hb : b < 8192), (mIb).view.read (Elt F) fb (ix1 ⟨b, hb⟩) = fx (ix2 ⟨j, hj⟩ ⟨b + 8192, by omega⟩))) →
    iprop(Transfers.MayWaits (thr L d) (none : HIx 1) O ∗ Tpt q ft
        ∗ ((mRow).view.loc (thr L d) ↦{fullShare} fr) ∗ ((mOch).view.loc (thr L d) ↦{fullShare} fo) ∗ ((mIa).view.loc (thr L d) ↦{fullShare} fa) ∗ ((mIb).view.loc (thr L d) ↦{fullShare} fb)
        ∗ ((mO).view.loc (thr L d) ↦[rowsSet (Cert.Spec.lo (wid L)) (Cert.Spec.hi (wid L))]{fullShare} g0)
        ∗ semVal ((thr L d), SemLoc.dma s1.sem) 0 ∗ semVal ((thr L d), SemLoc.dma s2.sem) 0 ∗ semVal ((thr L d), SemLoc.dma s3.sem) 0 ∗ owes (thr L d) O W
        ∗ (∀ acc fr' fo' g W',
            ⌜∀ x ∈ rowsSet (Cert.Spec.lo (wid L)) (Cert.Spec.hi (wid L)), g x = if 36 * j + dlo (wid L) j ≤ (x 0).val ∧ (x 0).val < 36 * j + dlo (wid L) j + l.trips
                then ft (ix2 (Cert.Spec.compOf (x 0)) (Cert.Spec.rowIx (fx (ix2 ⟨j, hj⟩ (x 1))))) else g0 x⌝
            -∗ ⌜∀ p ∈ W', p ∈ W0 ∨ p.2 = none⌝
            -∗ Transfers.MayWaits (thr L d) (none : HIx 1) O -∗ Tpt q ft
            -∗ ((mRow).view.loc (thr L d) ↦{fullShare} fr') -∗ ((mOch).view.loc (thr L d) ↦{fullShare} fo') -∗ ((mIa).view.loc (thr L d) ↦{fullShare} fa) -∗ ((mIb).view.loc (thr L d) ↦{fullShare} fb)
            -∗ ((mO).view.loc (thr L d) ↦[rowsSet (Cert.Spec.lo (wid L)) (Cert.Spec.hi (wid L))]{fullShare} g)
            -∗ semVal ((thr L d), SemLoc.dma s1.sem) 0 -∗ semVal ((thr L d), SemLoc.dma s2.sem) 0 -∗ semVal ((thr L d), SemLoc.dma s3.sem) 0 -∗ owes (thr L d) O W'
            -∗ wp frame (wpE defs Variants.none (thr L d) none) Set.univ (kk acc) Q))
      ⊢ wp frame (wpE defs Variants.none (thr L d) none) Set.univ (Scf.Loop.for l hok 0#32 body >>= kk) Q

/-! ## Taking a few members out of a family and putting them back -/

section Take
variable {I : Type} [DecidableEq I]

theorem take2 {S : Finset I} {a b : I} (ha : a ∈ S) (hb : b ∈ S) (hab : a ≠ b) (Φ : I → sProp 𝕄) :
    bigSep S Φ = iprop((Φ a ∗ Φ b) ∗ bigSep (S \ {a, b}) Φ) := by
  rw [SparseCore.bigSep_sdiff_split' (t := {a, b}) (by
      intro x hx
      rcases Finset.mem_insert.1 hx with rfl | hx
      · exact ha
      · rw [Finset.mem_singleton.1 hx]; exact hb),
    SparseCore.bigSep_insert' (by rw [Finset.mem_singleton]; exact hab), bigSep_singleton]

theorem take3 {S : Finset I} {a b c : I} (ha : a ∈ S) (hb : b ∈ S) (hc : c ∈ S) (hab : a ≠ b) (hac : a ≠ c) (hbc : b ≠ c)
    (Φ : I → sProp 𝕄) :
    bigSep S Φ = iprop((Φ a ∗ Φ b ∗ Φ c) ∗ bigSep (S \ {a, b, c}) Φ) := by
  rw [SparseCore.bigSep_sdiff_split' (t := {a, b, c}) (by
      intro x hx
      rcases Finset.mem_insert.1 hx with rfl | hx
      · exact ha
      · rcases Finset.mem_insert.1 hx with rfl | hx
        · exact hb
        · rw [Finset.mem_singleton.1 hx]; exact hc),
    SparseCore.bigSep_insert' (by
      rw [Finset.mem_insert, Finset.mem_singleton]; exact fun h => h.elim hab hac),
    SparseCore.bigSep_insert' (by rw [Finset.mem_singleton]; exact hbc), bigSep_singleton]

theorem take4 {S : Finset I} {a b c e : I} (ha : a ∈ S) (hb : b ∈ S) (hc : c ∈ S) (he : e ∈ S)
    (hab : a ≠ b) (hac : a ≠ c) (hae : a ≠ e) (hbc : b ≠ c) (hbe : b ≠ e) (hce : c ≠ e) (Φ : I → sProp 𝕄) :
    bigSep S Φ = iprop((Φ a ∗ Φ b ∗ Φ c ∗ Φ e) ∗ bigSep (S \ {a, b, c, e}) Φ) := by
  rw [SparseCore.bigSep_sdiff_split' (t := {a, b, c, e}) (by
      intro x hx
      rcases Finset.mem_insert.1 hx with rfl | hx
      · exact ha
      · rcases Finset.mem_insert.1 hx with rfl | hx
        · exact hb
        · rcases Finset.mem_insert.1 hx with rfl | hx
          · exact hc
          · rw [Finset.mem_singleton.1 hx]; exact he),
    SparseCore.bigSep_insert' (by
      rw [Finset.mem_insert, Finset.mem_insert, Finset.mem_singleton]
      exact fun h => h.elim hab fun h => h.elim hac hae),
    SparseCore.bigSep_insert' (by
      rw [Finset.mem_insert, Finset.mem_singleton]; exact fun h => h.elim hbc hbe),
    SparseCore.bigSep_insert' (by rw [Finset.mem_singleton]; exact hce), bigSep_singleton]

end Take

/-! ## The waits a thread has recorded: every new one is at the kernels' own index -/

theorem waits_ins {W0 W : Waits sig (HIx 1)} (hW : ∀ p ∈ W, p ∈ W0 ∨ p.2 = none) (a b : SemLoc sig) :
    ∀ p ∈ insert (a, (none : HIx 1)) (insert (b, (none : HIx 1)) W), p ∈ W0 ∨ p.2 = none := by
  intro p hp
  rcases Finset.mem_insert.1 hp with rfl | hp
  · exact Or.inr rfl
  · rcases Finset.mem_insert.1 hp with rfl | hp
    · exact Or.inr rfl
    · exact hW p hp

/-! ## The output rows, field by field -/

/-- The tile's rows below field j hold the specification's values. -/
def Agree (lo hi : ℕ) (G g : S936x16384.Idx → Elt F .f32) (j : ℕ) : Prop :=
  ∀ x ∈ rowsSet lo hi, (x 0).val < 36 * j → g x = G x

theorem agree_zero (lo hi : ℕ) (G g : S936x16384.Idx → Elt F .f32) : Agree (F := F) lo hi G g 0 := by
  intro x _ h; omega

/-- One field more: the rows the field's loop wrote hold the field's values, the rows below are as they were. -/
theorem agree_step {w j : ℕ} {G g0 g : S936x16384.Idx → Elt F .f32} {n : ℕ} {V : S936x16384.Idx → Elt F .f32}
    (hn : n = dhi w j - dlo w j)
    (h0 : Agree (F := F) (Cert.Spec.lo w) (Cert.Spec.hi w) G g0 j)
    (hg : ∀ x ∈ rowsSet (Cert.Spec.lo w) (Cert.Spec.hi w), g x = if 36 * j + dlo w j ≤ (x 0).val ∧ (x 0).val < 36 * j + dlo w j + n then V x else g0 x)
    (hV : ∀ x : S936x16384.Idx, (x 0).val / 36 = j → V x = G x) :
    Agree (F := F) (Cert.Spec.lo w) (Cert.Spec.hi w) G g (j + 1) := by
  intro x hx hlt
  have hx' := mem_rowsSet.1 hx
  rw [hg x hx]
  have hdl := dlo_le_dhi w j
  have hdh := dhi_le w j
  by_cases hf : (x 0).val < 36 * j
  · rw [if_neg (by omega)]; exact h0 x hx hf
  · have hq : (x 0).val / 36 = j := by omega
    have hm := (mem_range_iff' w j ((x 0).val % 36) (Nat.mod_lt _ (by decide))).2 (by omega)
    rw [if_pos (by omega)]; exact hV x hq

theorem ex_eq {A : Type} (Φ : A → sProp 𝕄) (a : A) : Φ a ⊢ iprop(∃ x, ⌜x = a⌝ ∗ Φ x) := by
  iintro H
  iexists a
  isplitr
  · ipureintro; rfl
  · iexact H

theorem waits_dite {W0 W : Waits sig (HIx 1)} (hW : ∀ p ∈ W, p ∈ W0 ∨ p.2 = none) (c : Prop) [Decidable c] (a b : SemLoc sig) :
    ∀ p ∈ (if hc : c then insert (a, (default : HIx 1)) (insert (b, (default : HIx 1)) W) else W), p ∈ W0 ∨ p.2 = none := by
  intro p hp
  split at hp
  · rcases Finset.mem_insert.1 hp with rfl | hp
    · exact Or.inr rfl
    · rcases Finset.mem_insert.1 hp with rfl | hp
      · exact Or.inr rfl
      · exact hW p hp
  · exact hW p hp

theorem outT_field (fx : S26x16384.Idx → BitVec 32) (tT : Fin 26 → S36x100000.Idx → Elt F .f32) (j : ℕ) (hj : j < 26)
    (x : S936x16384.Idx) (hx : (x 0).val / 36 = j) :
    tT ⟨j, hj⟩ (ix2 (Cert.Spec.compOf (x 0)) (Cert.Spec.rowIx (fx (ix2 ⟨j, hj⟩ (x 1))))) = Cert.Spec.outT fx tT x := by
  subst hx; rfl

/-- The bounds a field's loop rule asks for, when the field has a row of the tile's. -/
theorem field_bounds (w j : ℕ) (h : dlo w j < dhi w j) :
    Cert.Spec.lo w ≤ 36 * j + dlo w j ∧ 36 * j + dlo w j + (dhi w j - dlo w j) ≤ Cert.Spec.hi w
      ∧ 36 * j ≤ 36 * j + dlo w j ∧ 36 * j + dlo w j + (dhi w j - dlo w j) ≤ 36 * j + 36 := by
  have h1 := (mem_range_iff' w j (dlo w j) (by have := dhi_le w j; omega)).1 ⟨le_rfl, h⟩
  have h2 := (mem_range_iff' w j (dhi w j - 1) (by have := dhi_le w j; omega)).1 ⟨by omega, by omega⟩
  have := dhi_le w j
  omega

/-! ## The tile's scoped semaphores, taken out of the family by name and put back -/

theorem sem_mem (sm : SemLoc sig) (h : sm.isScoped .scVector = true) :
    (((thr L d), sm) : GSem nD τ sig) ∈ SparseCore.Cfg.ownCells (thr L d) :=
  SparseCore.Cfg.mem_ownCells.mpr ⟨rfl, h⟩

theorem sem_ne (a b : SemLoc sig) (h : a ≠ b) : (((thr L d), a) : GSem nD τ sig) ≠ ((thr L d), b) :=
  fun e => h (Prod.mk.inj e).2

theorem sems_take2 (a b : SemLoc sig) (ha : a.isScoped .scVector = true) (hb : b.isScoped .scVector = true) (hab : a ≠ b) :
    (SparseCore.Cfg.ownSems0 (thr L d) : sProp 𝕄)
      = iprop((semVal ((thr L d), a) 0 ∗ semVal ((thr L d), b) 0)
          ∗ bigSep (SparseCore.Cfg.ownCells (thr L d) \ {((thr L d), a), ((thr L d), b)}) fun g => semVal g 0) := by
  unfold SparseCore.Cfg.ownSems0
  exact take2 (sem_mem L d a ha) (sem_mem L d b hb) (sem_ne L d a b hab) _

theorem sems_take3 (a b c : SemLoc sig) (ha : a.isScoped .scVector = true) (hb : b.isScoped .scVector = true)
    (hc : c.isScoped .scVector = true) (hab : a ≠ b) (hac : a ≠ c) (hbc : b ≠ c) :
    (SparseCore.Cfg.ownSems0 (thr L d) : sProp 𝕄)
      = iprop((semVal ((thr L d), a) 0 ∗ semVal ((thr L d), b) 0 ∗ semVal ((thr L d), c) 0)
          ∗ bigSep (SparseCore.Cfg.ownCells (thr L d) \ {((thr L d), a), ((thr L d), b), ((thr L d), c)}) fun g => semVal g 0) := by
  unfold SparseCore.Cfg.ownSems0
  exact take3 (sem_mem L d a ha) (sem_mem L d b hb) (sem_mem L d c hc) (sem_ne L d a b hab) (sem_ne L d a c hac) (sem_ne L d b c hbc) _

/-! ## What the guarded fetch leaves in the two index scratches -/

/-- The words a copy of half a row of the index array carries. -/
abbrev fetched (j off : ℕ) (inb : ∀ a, (![j, off] : Fin 2 → ℕ) a + S1x8192.size a ≤ S26x16384.size a) (fx : S26x16384.Idx → BitVec 32) :
    S8192.Idx → Elt F .i32 :=
  ReadAs.same.apply (View.read (Elt F) (((Memref.whole main_v0_scv : Memref sig .scVector .hbm S26x16384 .i32).slice
    (Rect.unit (s := S26x16384) ![j, off] S1x8192.size inb) (fun _ => rfl)).squeeze S8192 squeezes_S1x8192_S8192).view fx)

/-- The guard holds whenever the field's loop has a trip, so the two scratches then hold the field's index row. -/
theorem idx_ok (j : ℕ) (hj : j < 26) (n : ℕ) (gd : BitVec 1) (fx : S26x16384.Idx → BitVec 32)
    (inbA : ∀ a, (![j, 0] : Fin 2 → ℕ) a + S1x8192.size a ≤ S26x16384.size a)
    (inbB : ∀ a, (![j, 8192] : Fin 2 → ℕ) a + S1x8192.size a ≤ S26x16384.size a)
    (fa0 fa : Buf (Elt F) ((mIa).view.loc (thr L d))) (fb0 fb : Buf (Elt F) ((mIb).view.loc (thr L d)))
    (hfa : fa = if hc : gd = 1#1 then View.write (Elt F) (mIa).view fa0 (fetched (F := F) j 0 inbA fx) Finset.univ else fa0)
    (hfb : fb = if hc : gd = 1#1 then View.write (Elt F) (mIb).view fb0 (fetched (F := F) j 8192 inbB fx) Finset.univ else fb0)
    (hg : 0 < n → gd = 1#1)
    (hfetch : ∀ (off : ℕ) (hoff : off + 8192 ≤ 16384) (inb : ∀ a, (![j, off] : Fin 2 → ℕ) a + S1x8192.size a ≤ S26x16384.size a)
      (b : ℕ) (hb : b < 8192), fetched (F := F) j off inb fx (ix1 ⟨b, hb⟩) = fx (ix2 ⟨j, hj⟩ ⟨b + off, by omega⟩))
    (hrw1 : ∀ (f : Buf (Elt F) ((mIa).view.loc (thr L d))) (P : S8192.Idx → Elt F .i32) (y : S8192.Idx), (mIa).view.read (Elt F) (View.write (Elt F) (mIa).view f P Finset.univ) y = P y)
    (hrw2 : ∀ (f : Buf (Elt F) ((mIb).view.loc (thr L d))) (P : S8192.Idx → Elt F .i32) (y : S8192.Idx), (mIb).view.read (Elt F) (View.write (Elt F) (mIb).view f P Finset.univ) y = P y) :
    0 < n → (∀ (b : ℕ) (hb : b < 8192), (mIa).view.read (Elt F) fa (ix1 ⟨b, hb⟩) = fx (ix2 ⟨j, hj⟩ ⟨b, by omega⟩))
      ∧ (∀ (b : ℕ) (hb : b < 8192), (mIb).view.read (Elt F) fb (ix1 ⟨b, hb⟩) = fx (ix2 ⟨j, hj⟩ ⟨b + 8192, by omega⟩)) := by
  intro h0
  have hgd := hg h0
  subst hfa hfb
  constructor
  · intro b hb; rw [dif_pos hgd, hrw1]; exact hfetch 0 (by decide) inbA b hb
  · intro b hb; rw [dif_pos hgd, hrw2]; exact hfetch 8192 (by decide) inbB b hb

/-- The field's index row in the two index scratches, when its loop has a trip. -/
def IdxOK (j : ℕ) (hj : j < 26) (n : ℕ) (fx : S26x16384.Idx → BitVec 32)
    (fa : Buf (Elt F) ((mIa).view.loc (thr L d))) (fb : Buf (Elt F) ((mIb).view.loc (thr L d))) : Prop :=
  0 < n → (∀ (b : ℕ) (hb : b < 8192), (mIa).view.read (Elt F) fa (ix1 ⟨b, hb⟩) = fx (ix2 ⟨j, hj⟩ ⟨b, by omega⟩))
      ∧ (∀ (b : ℕ) (hb : b < 8192), (mIb).view.read (Elt F) fb (ix1 ⟨b, hb⟩) = fx (ix2 ⟨j, hj⟩ ⟨b + 8192, by omega⟩))

/-- What the tile holds between two pieces of its function: its wait evidence, the read shares of the index array and the
    tables, the four scratches (the row and output scratches at anything), its rows of the output, its scoped semaphores at
    zero, and what it owes. -/
def TRes (O : CellTallies nD τ sig (HIx 1)) (W : Waits sig (HIx 1)) (q : PosShare TreeShare)
    (fx : S26x16384.Idx → BitVec 32) (tT : Fin 26 → S36x100000.Idx → Elt F .f32)
    (g : Buf (Elt F) ((mO).view.loc (thr L d))) (fa : Buf (Elt F) ((mIa).view.loc (thr L d))) (fb : Buf (Elt F) ((mIb).view.loc (thr L d))) : sProp 𝕄 :=
  iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ ((mIa).view.loc (thr L d) ↦{fullShare} fa) ∗ ((mIb).view.loc (thr L d) ↦{fullShare} fb)
        ∗ ((mO).view.loc (thr L d) ↦[rowsSet (Cert.Spec.lo (wid L)) (Cert.Spec.hi (wid L))]{fullShare} g)
        ∗ (SparseCore.Cfg.ownSems0 (thr L d) : sProp 𝕄)
        ∗ owes (thr L d) O W)

set_option maxHeartbeats 4000000 in
/-- The 26 fields' loop rules. -/
structure DRules : Prop where
  r0 : ∀ (w0 : BitVec 32) (w1 : BitVec 32) (w2 : BitVec 32) (w3 : BitVec 32), DRule (F := F) L d defs 0 (by decide) (fun q ft => ((Memref.whole main_v1_scv : Memref sig .scVector .hbm S36x100000 .f32).view.loc (thr L d) ↦{q} ft)) cc0_scoped2 cc0_scoped3 cc0_scoped4 (k0_t1_loop L) (k0_t1_ok L) (Gen.k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r1 : ∀ (w0 : BitVec 32) (w1 : BitVec 32) (w2 : BitVec 32) (w3 : BitVec 32), DRule (F := F) L d defs 1 (by decide) (fun q ft => ((Memref.whole main_v2_scv : Memref sig .scVector .hbm S36x100000 .f32).view.loc (thr L d) ↦{q} ft)) cc0_scoped10 cc0_scoped11 cc0_scoped12 (k0_t7_loop L) (k0_t7_ok L) (Gen.k0_t7_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r2 : ∀ (w0 : BitVec 32) (w1 : BitVec 32) (w2 : BitVec 32) (w3 : BitVec 32) (w4 : BitVec 32), DRule (F := F) L d defs 2 (by decide) (fun q ft => ((Memref.whole main_v3_scv : Memref sig .scVector .hbm S36x100000 .f32).view.loc (thr L d) ↦{q} ft)) cc0_scoped18 cc0_scoped19 cc0_scoped20 (k0_t13_loop L) (k0_t13_ok L) (Gen.k0_t13_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r3 : ∀ (w0 : BitVec 32) (w1 : BitVec 32) (w2 : BitVec 32) (w3 : BitVec 32) (w4 : BitVec 32), DRule (F := F) L d defs 3 (by decide) (fun q ft => ((Memref.whole main_v4_scv : Memref sig .scVector .hbm S36x100000 .f32).view.loc (thr L d) ↦{q} ft)) cc0_scoped26 cc0_scoped27 cc0_scoped28 (k0_t19_loop L) (k0_t19_ok L) (Gen.k0_t19_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r4 : ∀ (w0 : BitVec 32) (w1 : BitVec 32) (w2 : BitVec 32) (w3 : BitVec 32) (w4 : BitVec 32), DRule (F := F) L d defs 4 (by decide) (fun q ft => ((Memref.whole main_v5_scv : Memref sig .scVector .hbm S36x100000 .f32).view.loc (thr L d) ↦{q} ft)) cc0_scoped34 cc0_scoped35 cc0_scoped36 (k0_t25_loop L) (k0_t25_ok L) (Gen.k0_t25_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r5 : ∀ (w0 : BitVec 32) (w1 : BitVec 32) (w2 : BitVec 32) (w3 : BitVec 32) (w4 : BitVec 32) (w5 : BitVec 32), DRule (F := F) L d defs 5 (by decide) (fun q ft => ((Memref.whole main_v6_scv : Memref sig .scVector .hbm S36x100000 .f32).view.loc (thr L d) ↦{q} ft)) cc0_scoped42 cc0_scoped43 cc0_scoped44 (k0_t31_loop L) (k0_t31_ok L) (Gen.k0_t31_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r6 : ∀ (w0 : BitVec 32) (w1 : BitVec 32) (w2 : BitVec 32) (w3 : BitVec 32) (w4 : BitVec 1), DRule (F := F) L d defs 6 (by decide) (fun q ft => ((Memref.whole main_v7_scv : Memref sig .scVector .hbm S36x100000 .f32).view.loc (thr L d) ↦{q} ft)) cc0_scoped50 cc0_scoped51 cc0_scoped52 (k0_t37_loop L) (k0_t37_ok L) (Gen.k0_t37_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r7 : ∀ (w0 : BitVec 32) (w1 : BitVec 32) (w2 : BitVec 32) (w3 : BitVec 32) (w4 : BitVec 1) (w5 : BitVec 32), DRule (F := F) L d defs 7 (by decide) (fun q ft => ((Memref.whole main_v8_scv : Memref sig .scVector .hbm S36x100000 .f32).view.loc (thr L d) ↦{q} ft)) cc0_scoped58 cc0_scoped59 cc0_scoped60 (k0_t43_loop L) (k0_t43_ok L) (Gen.k0_t43_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r8 : ∀ (w0 : BitVec 32) (w1 : BitVec 32) (w2 : BitVec 32) (w3 : BitVec 32), DRule (F := F) L d defs 8 (by decide) (fun q ft => ((Memref.whole main_v9_scv : Memref sig .scVector .hbm S36x100000 .f32).view.loc (thr L d) ↦{q} ft)) cc0_scoped66 cc0_scoped67 cc0_scoped68 (k0_t49_loop L) (k0_t49_ok L) (Gen.k0_t49_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r9 : ∀ (w0 : BitVec 32) (w1 : BitVec 32) (w2 : BitVec 32) (w3 : BitVec 32) (w4 : BitVec 32), DRule (F := F) L d defs 9 (by decide) (fun q ft => ((Memref.whole main_v10_scv : Memref sig .scVector .hbm S36x100000 .f32).view.loc (thr L d) ↦{q} ft)) cc0_scoped74 cc0_scoped75 cc0_scoped76 (k0_t55_loop L) (k0_t55_ok L) (Gen.k0_t55_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r10 : ∀ (w0 : BitVec 32) (w1 : BitVec 32) (w2 : BitVec 32) (w3 : BitVec 32) (w4 : BitVec 32) (w5 : BitVec 32), DRule (F := F) L d defs 10 (by decide) (fun q ft => ((Memref.whole main_v11_scv : Memref sig .scVector .hbm S36x100000 .f32).view.loc (thr L d) ↦{q} ft)) cc0_scoped82 cc0_scoped83 cc0_scoped84 (k0_t61_loop L) (k0_t61_ok L) (Gen.k0_t61_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r11 : ∀ (w0 : BitVec 32) (w1 : BitVec 32) (w2 : BitVec 32) (w3 : BitVec 32) (w4 : BitVec 32) (w5 : BitVec 32) (w6 : BitVec 32), DRule (F := F) L d defs 11 (by decide) (fun q ft => ((Memref.whole main_v12_scv : Memref sig .scVector .hbm S36x100000 .f32).view.loc (thr L d) ↦{q} ft)) cc0_scoped90 cc0_scoped91 cc0_scoped92 (k0_t67_loop L) (k0_t67_ok L) (Gen.k0_t67_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6)
  r12 : ∀ (w0 : BitVec 32) (w1 : BitVec 32) (w2 : BitVec 32) (w3 : BitVec 32) (w4 : BitVec 32) (w5 : BitVec 32), DRule (F := F) L d defs 12 (by decide) (fun q ft => ((Memref.whole main_v13_scv : Memref sig .scVector .hbm S36x100000 .f32).view.loc (thr L d) ↦{q} ft)) cc0_scoped98 cc0_scoped99 cc0_scoped100 (k0_t73_loop L) (k0_t73_ok L) (Gen.k0_t73_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r13 : ∀ (w0 : BitVec 32) (w1 : BitVec 32) (w2 : BitVec 32) (w3 : BitVec 32) (w4 : BitVec 32) (w5 : BitVec 32) (w6 : BitVec 32), DRule (F := F) L d defs 13 (by decide) (fun q ft => ((Memref.whole main_v14_scv : Memref sig .scVector .hbm S36x100000 .f32).view.loc (thr L d) ↦{q} ft)) cc0_scoped106 cc0_scoped107 cc0_scoped108 (k0_t79_loop L) (k0_t79_ok L) (Gen.k0_t79_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6)
  r14 : ∀ (w0 : BitVec 32) (w1 : BitVec 32) (w2 : BitVec 32) (w3 : BitVec 32) (w4 : BitVec 32) (w5 : BitVec 32) (w6 : BitVec 32), DRule (F := F) L d defs 14 (by decide) (fun q ft => ((Memref.whole main_v15_scv : Memref sig .scVector .hbm S36x100000 .f32).view.loc (thr L d) ↦{q} ft)) cc0_scoped114 cc0_scoped115 cc0_scoped116 (k0_t85_loop L) (k0_t85_ok L) (Gen.k0_t85_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6)
  r15 : ∀ (w0 : BitVec 32) (w1 : BitVec 32) (w2 : BitVec 32) (w3 : BitVec 32), DRule (F := F) L d defs 15 (by decide) (fun q ft => ((Memref.whole main_v16_scv : Memref sig .scVector .hbm S36x100000 .f32).view.loc (thr L d) ↦{q} ft)) cc0_scoped122 cc0_scoped123 cc0_scoped124 (k0_t91_loop L) (k0_t91_ok L) (Gen.k0_t91_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r16 : ∀ (w0 : BitVec 32) (w1 : BitVec 32) (w2 : BitVec 32) (w3 : BitVec 32), DRule (F := F) L d defs 16 (by decide) (fun q ft => ((Memref.whole main_v17_scv : Memref sig .scVector .hbm S36x100000 .f32).view.loc (thr L d) ↦{q} ft)) cc0_scoped130 cc0_scoped131 cc0_scoped132 (k0_t97_loop L) (k0_t97_ok L) (Gen.k0_t97_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r17 : ∀ (w0 : BitVec 32) (w1 : BitVec 32) (w2 : BitVec 32) (w3 : BitVec 32) (w4 : BitVec 32), DRule (F := F) L d defs 17 (by decide) (fun q ft => ((Memref.whole main_v18_scv : Memref sig .scVector .hbm S36x100000 .f32).view.loc (thr L d) ↦{q} ft)) cc0_scoped138 cc0_scoped139 cc0_scoped140 (k0_t103_loop L) (k0_t103_ok L) (Gen.k0_t103_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r18 : ∀ (w0 : BitVec 32) (w1 : BitVec 32) (w2 : BitVec 32) (w3 : BitVec 32) (w4 : BitVec 32), DRule (F := F) L d defs 18 (by decide) (fun q ft => ((Memref.whole main_v19_scv : Memref sig .scVector .hbm S36x100000 .f32).view.loc (thr L d) ↦{q} ft)) cc0_scoped146 cc0_scoped147 cc0_scoped148 (k0_t109_loop L) (k0_t109_ok L) (Gen.k0_t109_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r19 : ∀ (w0 : BitVec 32) (w1 : BitVec 32) (w2 : BitVec 32) (w3 : BitVec 32) (w4 : BitVec 32), DRule (F := F) L d defs 19 (by decide) (fun q ft => ((Memref.whole main_v20_scv : Memref sig .scVector .hbm S36x100000 .f32).view.loc (thr L d) ↦{q} ft)) cc0_scoped154 cc0_scoped155 cc0_scoped156 (k0_t115_loop L) (k0_t115_ok L) (Gen.k0_t115_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r20 : ∀ (w0 : BitVec 32) (w1 : BitVec 32) (w2 : BitVec 32) (w3 : BitVec 32) (w4 : BitVec 32) (w5 : BitVec 32), DRule (F := F) L d defs 20 (by decide) (fun q ft => ((Memref.whole main_v21_scv : Memref sig .scVector .hbm S36x100000 .f32).view.loc (thr L d) ↦{q} ft)) cc0_scoped162 cc0_scoped163 cc0_scoped164 (k0_t121_loop L) (k0_t121_ok L) (Gen.k0_t121_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r21 : ∀ (w0 : BitVec 32) (w1 : BitVec 32) (w2 : BitVec 32) (w3 : BitVec 32) (w4 : BitVec 1), DRule (F := F) L d defs 21 (by decide) (fun q ft => ((Memref.whole main_v22_scv : Memref sig .scVector .hbm S36x100000 .f32).view.loc (thr L d) ↦{q} ft)) cc0_scoped170 cc0_scoped171 cc0_scoped172 (k0_t127_loop L) (k0_t127_ok L) (Gen.k0_t127_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r22 : ∀ (w0 : BitVec 32) (w1 : BitVec 32) (w2 : BitVec 32) (w3 : BitVec 32) (w4 : BitVec 1) (w5 : BitVec 32), DRule (F := F) L d defs 22 (by decide) (fun q ft => ((Memref.whole main_v23_scv : Memref sig .scVector .hbm S36x100000 .f32).view.loc (thr L d) ↦{q} ft)) cc0_scoped178 cc0_scoped179 cc0_scoped180 (k0_t133_loop L) (k0_t133_ok L) (Gen.k0_t133_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r23 : ∀ (w0 : BitVec 32) (w1 : BitVec 32) (w2 : BitVec 32) (w3 : BitVec 32), DRule (F := F) L d defs 23 (by decide) (fun q ft => ((Memref.whole main_v24_scv : Memref sig .scVector .hbm S36x100000 .f32).view.loc (thr L d) ↦{q} ft)) cc0_scoped186 cc0_scoped187 cc0_scoped188 (k0_t139_loop L) (k0_t139_ok L) (Gen.k0_t139_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r24 : ∀ (w0 : BitVec 32) (w1 : BitVec 32) (w2 : BitVec 32) (w3 : BitVec 32) (w4 : BitVec 32), DRule (F := F) L d defs 24 (by decide) (fun q ft => ((Memref.whole main_v25_scv : Memref sig .scVector .hbm S36x100000 .f32).view.loc (thr L d) ↦{q} ft)) cc0_scoped194 cc0_scoped195 cc0_scoped196 (k0_t145_loop L) (k0_t145_ok L) (Gen.k0_t145_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r25 : ∀ (w0 : BitVec 32), DRule (F := F) L d defs 25 (by decide) (fun q ft => ((Memref.whole main_v26_scv : Memref sig .scVector .hbm S36x100000 .f32).view.loc (thr L d) ↦{q} ft)) cc0_scoped202 cc0_scoped203 cc0_scoped204 (k0_t151_loop L) (k0_t151_ok L) (Gen.k0_t151_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0)

end Cert.Proof.BodyTop
-- ==== Proof.BodyTopP366.lean ====
/-
  Piece 1 of the tile's function (the fetch of field 0, the loops of field 0, the fetch of field 1, the loops of field 1), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 1 of the tile's function: from the invariant below field 0 to the invariant below field 2. -/
theorem part366_spec (hD : DRules (F := F) L d defs) {α : Type} (kk : (Σ' (c36_i32_35 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 0)
    (p : PT (F := F) L α) (hp : p = (k0_part366 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 0#32 >>= kk))
    (hk : ∀ Wc' g' fa' fb', (∀ p ∈ Wc', p ∈ W ∨ p.2 = none) → Agree (F := F) (Cert.Spec.lo (wid L)) (Cert.Spec.hi (wid L)) (Cert.Spec.outT fx tT) g' 2 →
      TRes (F := F) L d O Wc' q fx tT g' fa' fb' ⊢ wp frame (wpE defs Variants.none (thr L d) none) Set.univ (kk ⟨36#32, (Scalar.maxsi 0#32 (Scalar.subi (loW (cW L) (sW L)) 72#32))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part366_eq_skeleton]
  unfold Gen.k0_part366_skel

  -- field 0: its index row is fetched when the field has a row of the tile's
  ihave Hsems := (Entails.of_eq (sems_take2 (F := F) L d (SemLoc.dma cc0_scoped0.sem) (SemLoc.dma cc0_scoped1.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped0.sem) (SemLoc.dma cc0_scoped1.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 0 (by decide) (k0_t1_loop L).trips fx fan0 fbn0 :=
    idx_ok (F := F) L d 0 (by decide) _ _ fx _ _ _ fan0 _ fbn0 hfa0 hfb0
      (fun h0 => (field_guard_iff (L 0).val (L 1).val 0 hcL hsL (by decide)).2 (by have := t1_trips L; unfold wid at this; omega))
      (hfetch 0 (by decide) fx) hrw1 hrw2
  clear hfa0 hfb0 hWe0

  -- field 0: its loop over the tile's rows of the field, then the remainder loop, which has no trip
  have htr1 : (k0_t1_loop L).trips = dhi (wid L) 0 - dlo (wid L) 0 := t1_trips L
  ihave Hsems := (Entails.of_eq (sems_take3 (F := F) L d (SemLoc.dma cc0_scoped2.sem) (SemLoc.dma cc0_scoped3.sem) (SemLoc.dma cc0_scoped4.sem) (by decide +revert) (by decide +revert) (by decide +revert) (by decide +revert) (by decide +revert) (by decide +revert))) $$ Hsems
  icases Hsems with ⟨⟨HsC, HsD, HsE⟩, Hsems⟩
  iapply (hD.r0 _ _ _ _ _ _ O W Wn0 q fx (tT ⟨0, by decide⟩) _ _ fan0 fbn0 g
    hWn0 hpre hidx0)
  isplitl [Hmw]; · iexact Hmw
  isplitl [Ht1]; · iexact Ht1
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht1 Hr Ho Ha Hb Hg HsC HsD HsE HO
  ihave Hsems := (Entails.of_eq (sems_take3 (F := F) L d (SemLoc.dma cc0_scoped2.sem) (SemLoc.dma cc0_scoped3.sem) (SemLoc.dma cc0_scoped4.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (0 + 1) :=
    agree_step htr1 hA hg1 (fun x hx => outT_field fx tT 0 (by decide) x hx)
  clear hg1
  sl_exec
  sl_for0 (t4_trips L)

  -- field 1: its index row is fetched when the field has a row of the tile's
  ihave Hsems := (Entails.of_eq (sems_take2 (F := F) L d (SemLoc.dma cc0_scoped8.sem) (SemLoc.dma cc0_scoped9.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped8.sem) (SemLoc.dma cc0_scoped9.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 1 (by decide) (k0_t7_loop L).trips fx fan2 fbn2 :=
    idx_ok (F := F) L d 1 (by decide) _ _ fx _ _ _ fan2 _ fbn2 hfa2 hfb2
      (fun h0 => (field_guard_iff (L 0).val (L 1).val 1 hcL hsL (by decide)).2 (by have := t7_trips L; unfold wid at this; omega))
      (hfetch 1 (by decide) fx) hrw1 hrw2
  clear hfa2 hfb2 hWe2

  -- field 1: its loop over the tile's rows of the field, then the remainder loop, which has no trip
  have htr3 : (k0_t7_loop L).trips = dhi (wid L) 1 - dlo (wid L) 1 := t7_trips L
  ihave Hsems := (Entails.of_eq (sems_take3 (F := F) L d (SemLoc.dma cc0_scoped10.sem) (SemLoc.dma cc0_scoped11.sem) (SemLoc.dma cc0_scoped12.sem) (by decide +revert) (by decide +revert) (by decide +revert) (by decide +revert) (by decide +revert) (by decide +revert))) $$ Hsems
  icases Hsems with ⟨⟨HsC, HsD, HsE⟩, Hsems⟩
  iapply (hD.r1 _ _ _ _ _ _ O W Wn2 q fx (tT ⟨1, by decide⟩) _ _ fan2 fbn2 gn1
    hWn2 hpre hidx2)
  isplitl [Hmw]; · iexact Hmw
  isplitl [Ht2]; · iexact Ht2
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht2 Hr Ho Ha Hb Hg HsC HsD HsE HO
  ihave Hsems := (Entails.of_eq (sems_take3 (F := F) L d (SemLoc.dma cc0_scoped10.sem) (SemLoc.dma cc0_scoped11.sem) (SemLoc.dma cc0_scoped12.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (1 + 1) :=
    agree_step htr3 hAn1 hg3 (fun x hx => outT_field fx tT 1 (by decide) x hx)
  clear hg3
  sl_exec
  sl_for0 (t10_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopP367.lean ====
/-
  Piece 2 of the tile's function (the fetch of field 2, the loops of field 2, the fetch of field 3, the loops of field 3), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 2 of the tile's function: from the invariant below field 2 to the invariant below field 4. -/
theorem part367_spec (hD : DRules (F := F) L d defs) {α : Type} (kk : (Σ' (v105 : BitVec 32) (v106 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 2)
    (p : PT (F := F) L α) (hp : p = (k0_part367 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 36#32 (Scalar.maxsi 0#32 (Scalar.subi (loW (cW L) (sW L)) 72#32)) >>= kk))
    (hk : ∀ Wc' g' fa' fb', (∀ p ∈ Wc', p ∈ W ∨ p.2 = none) → Agree (F := F) (Cert.Spec.lo (wid L)) (Cert.Spec.hi (wid L)) (Cert.Spec.outT fx tT) g' 4 →
      TRes (F := F) L d O Wc' q fx tT g' fa' fb' ⊢ wp frame (wpE defs Variants.none (thr L d) none) Set.univ (kk ⟨(Scalar.minsi 36#32 (Scalar.maxsi 0#32 (Scalar.subi (loW (cW L) (sW L)) 144#32))), (Scalar.subi (hiW (cW L) (sW L)) 144#32), 0#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part367_eq_skeleton]
  unfold Gen.k0_part367_skel

  -- field 2: its index row is fetched when the field has a row of the tile's
  ihave Hsems := (Entails.of_eq (sems_take2 (F := F) L d (SemLoc.dma cc0_scoped16.sem) (SemLoc.dma cc0_scoped17.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped16.sem) (SemLoc.dma cc0_scoped17.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 2 (by decide) (k0_t13_loop L).trips fx fan0 fbn0 :=
    idx_ok (F := F) L d 2 (by decide) _ _ fx _ _ _ fan0 _ fbn0 hfa0 hfb0
      (fun h0 => (field_guard_iff (L 0).val (L 1).val 2 hcL hsL (by decide)).2 (by have := t13_trips L; unfold wid at this; omega))
      (hfetch 2 (by decide) fx) hrw1 hrw2
  clear hfa0 hfb0 hWe0

  -- field 2: its loop over the tile's rows of the field, then the remainder loop, which has no trip
  have htr1 : (k0_t13_loop L).trips = dhi (wid L) 2 - dlo (wid L) 2 := t13_trips L
  ihave Hsems := (Entails.of_eq (sems_take3 (F := F) L d (SemLoc.dma cc0_scoped18.sem) (SemLoc.dma cc0_scoped19.sem) (SemLoc.dma cc0_scoped20.sem) (by decide +revert) (by decide +revert) (by decide +revert) (by decide +revert) (by decide +revert) (by decide +revert))) $$ Hsems
  icases Hsems with ⟨⟨HsC, HsD, HsE⟩, Hsems⟩
  iapply (hD.r2 _ _ _ _ _ _ _ O W Wn0 q fx (tT ⟨2, by decide⟩) _ _ fan0 fbn0 g
    hWn0 hpre hidx0)
  isplitl [Hmw]; · iexact Hmw
  isplitl [Ht3]; · iexact Ht3
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht3 Hr Ho Ha Hb Hg HsC HsD HsE HO
  ihave Hsems := (Entails.of_eq (sems_take3 (F := F) L d (SemLoc.dma cc0_scoped18.sem) (SemLoc.dma cc0_scoped19.sem) (SemLoc.dma cc0_scoped20.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (2 + 1) :=
    agree_step htr1 hA hg1 (fun x hx => outT_field fx tT 2 (by decide) x hx)
  clear hg1
  sl_exec
  sl_for0 (t16_trips L)

  -- field 3: its index row is fetched when the field has a row of the tile's
  ihave Hsems := (Entails.of_eq (sems_take2 (F := F) L d (SemLoc.dma cc0_scoped24.sem) (SemLoc.dma cc0_scoped25.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped24.sem) (SemLoc.dma cc0_scoped25.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 3 (by decide) (k0_t19_loop L).trips fx fan2 fbn2 :=
    idx_ok (F := F) L d 3 (by decide) _ _ fx _ _ _ fan2 _ fbn2 hfa2 hfb2
      (fun h0 => (field_guard_iff (L 0).val (L 1).val 3 hcL hsL (by decide)).2 (by have := t19_trips L; unfold wid at this; omega))
      (hfetch 3 (by decide) fx) hrw1 hrw2
  clear hfa2 hfb2 hWe2

  -- field 3: its loop over the tile's rows of the field, then the remainder loop, which has no trip
  have htr3 : (k0_t19_loop L).trips = dhi (wid L) 3 - dlo (wid L) 3 := t19_trips L
  ihave Hsems := (Entails.of_eq (sems_take3 (F := F) L d (SemLoc.dma cc0_scoped26.sem) (SemLoc.dma cc0_scoped27.sem) (SemLoc.dma cc0_scoped28.sem) (by decide +revert) (by decide +revert) (by decide +revert) (by decide +revert) (by decide +revert) (by decide +revert))) $$ Hsems
  icases Hsems with ⟨⟨HsC, HsD, HsE⟩, Hsems⟩
  iapply (hD.r3 _ _ _ _ _ _ _ O W Wn2 q fx (tT ⟨3, by decide⟩) _ _ fan2 fbn2 gn1
    hWn2 hpre hidx2)
  isplitl [Hmw]; · iexact Hmw
  isplitl [Ht4]; · iexact Ht4
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht4 Hr Ho Ha Hb Hg HsC HsD HsE HO
  ihave Hsems := (Entails.of_eq (sems_take3 (F := F) L d (SemLoc.dma cc0_scoped26.sem) (SemLoc.dma cc0_scoped27.sem) (SemLoc.dma cc0_scoped28.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (3 + 1) :=
    agree_step htr3 hAn1 hg3 (fun x hx => outT_field fx tT 3 (by decide) x hx)
  clear hg3
  sl_exec
  sl_for0 (t22_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopP368.lean ====
/-
  Piece 3 of the tile's function (the fetch of field 4, the loops of field 4, the fetch of field 5, the loops of field 5), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 3 of the tile's function: from the invariant below field 4 to the invariant below field 6. -/
theorem part368_spec (hD : DRules (F := F) L d defs) {α : Type} (kk : (Σ' (v137 : BitVec 32) (v140 : BitVec 32), BitVec 1) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 4)
    (p : PT (F := F) L α) (hp : p = (k0_part368 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 144#32))) (Scalar.subi (hiW (cW L) (sW L)) 144#32) 0#32 >>= kk))
    (hk : ∀ Wc' g' fa' fb', (∀ p ∈ Wc', p ∈ W ∨ p.2 = none) → Agree (F := F) (Cert.Spec.lo (wid L)) (Cert.Spec.hi (wid L)) (Cert.Spec.outT fx tT) g' 6 →
      TRes (F := F) L d O Wc' q fx tT g' fa' fb' ⊢ wp frame (wpE defs Variants.none (thr L d) none) Set.univ (kk ⟨(Scalar.minsi 36#32 (Scalar.maxsi 0#32 (Scalar.subi (loW (cW L) (sW L)) 216#32))), (Scalar.minsi 36#32 (Scalar.maxsi 0#32 (Scalar.subi (hiW (cW L) (sW L)) 216#32))), (Scalar.cmpi .sgt (Scalar.minsi 36#32 (Scalar.maxsi 0#32 (Scalar.subi (hiW (cW L) (sW L)) 216#32))) (Scalar.minsi 36#32 (Scalar.maxsi 0#32 (Scalar.subi (loW (cW L) (sW L)) 216#32))))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part368_eq_skeleton]
  unfold Gen.k0_part368_skel

  -- field 4: its index row is fetched when the field has a row of the tile's
  ihave Hsems := (Entails.of_eq (sems_take2 (F := F) L d (SemLoc.dma cc0_scoped32.sem) (SemLoc.dma cc0_scoped33.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped32.sem) (SemLoc.dma cc0_scoped33.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 4 (by decide) (k0_t25_loop L).trips fx fan0 fbn0 :=
    idx_ok (F := F) L d 4 (by decide) _ _ fx _ _ _ fan0 _ fbn0 hfa0 hfb0
      (fun h0 => (field_guard_iff (L 0).val (L 1).val 4 hcL hsL (by decide)).2 (by have := t25_trips L; unfold wid at this; omega))
      (hfetch 4 (by decide) fx) hrw1 hrw2
  clear hfa0 hfb0 hWe0

  -- field 4: its loop over the tile's rows of the field, then the remainder loop, which has no trip
  have htr1 : (k0_t25_loop L).trips = dhi (wid L) 4 - dlo (wid L) 4 := t25_trips L
  ihave Hsems := (Entails.of_eq (sems_take3 (F := F) L d (SemLoc.dma cc0_scoped34.sem) (SemLoc.dma cc0_scoped35.sem) (SemLoc.dma cc0_scoped36.sem) (by decide +revert) (by decide +revert) (by decide +revert) (by decide +revert) (by decide +revert) (by decide +revert))) $$ Hsems
  icases Hsems with ⟨⟨HsC, HsD, HsE⟩, Hsems⟩
  iapply (hD.r4 _ _ _ _ _ _ _ O W Wn0 q fx (tT ⟨4, by decide⟩) _ _ fan0 fbn0 g
    hWn0 hpre hidx0)
  isplitl [Hmw]; · iexact Hmw
  isplitl [Ht5]; · iexact Ht5
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht5 Hr Ho Ha Hb Hg HsC HsD HsE HO
  ihave Hsems := (Entails.of_eq (sems_take3 (F := F) L d (SemLoc.dma cc0_scoped34.sem) (SemLoc.dma cc0_scoped35.sem) (SemLoc.dma cc0_scoped36.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (4 + 1) :=
    agree_step htr1 hA hg1 (fun x hx => outT_field fx tT 4 (by decide) x hx)
  clear hg1
  sl_exec
  sl_for0 (t28_trips L)

  -- field 5: its index row is fetched when the field has a row of the tile's
  ihave Hsems := (Entails.of_eq (sems_take2 (F := F) L d (SemLoc.dma cc0_scoped40.sem) (SemLoc.dma cc0_scoped41.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped40.sem) (SemLoc.dma cc0_scoped41.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 5 (by decide) (k0_t31_loop L).trips fx fan2 fbn2 :=
    idx_ok (F := F) L d 5 (by decide) _ _ fx _ _ _ fan2 _ fbn2 hfa2 hfb2
      (fun h0 => (field_guard_iff (L 0).val (L 1).val 5 hcL hsL (by decide)).2 (by have := t31_trips L; unfold wid at this; omega))
      (hfetch 5 (by decide) fx) hrw1 hrw2
  clear hfa2 hfb2 hWe2

  -- field 5: its loop over the tile's rows of the field, then the remainder loop, which has no trip
  have htr3 : (k0_t31_loop L).trips = dhi (wid L) 5 - dlo (wid L) 5 := t31_trips L
  ihave Hsems := (Entails.of_eq (sems_take3 (F := F) L d (SemLoc.dma cc0_scoped42.sem) (SemLoc.dma cc0_scoped43.sem) (SemLoc.dma cc0_scoped44.sem) (by decide +revert) (by decide +revert) (by decide +revert) (by decide +revert) (by decide +revert) (by decide +revert))) $$ Hsems
  icases Hsems with ⟨⟨HsC, HsD, HsE⟩, Hsems⟩
  iapply (hD.r5 _ _ _ _ _ _ _ _ O W Wn2 q fx (tT ⟨5, by decide⟩) _ _ fan2 fbn2 gn1
    hWn2 hpre hidx2)
  isplitl [Hmw]; · iexact Hmw
  isplitl [Ht6]; · iexact Ht6
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht6 Hr Ho Ha Hb Hg HsC HsD HsE HO
  ihave Hsems := (Entails.of_eq (sems_take3 (F := F) L d (SemLoc.dma cc0_scoped42.sem) (SemLoc.dma cc0_scoped43.sem) (SemLoc.dma cc0_scoped44.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (5 + 1) :=
    agree_step htr3 hAn1 hg3 (fun x hx => outT_field fx tT 5 (by decide) x hx)
  clear hg3
  sl_exec
  sl_for0 (t34_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopEnd.lean ====
/-
  What a decided fetch leaves in the two index scratches (a piece that ends right after a field's fetch runs the two cases
  of the fetch's guard apart).
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD)

/-- After the fetch itself, the two scratches hold the field's index row. -/
theorem idx_ok_pos (j : ℕ) (hj : j < 26) (n : ℕ) (fx : S26x16384.Idx → BitVec 32)
    (inbA : ∀ a, (![j, 0] : Fin 2 → ℕ) a + S1x8192.size a ≤ S26x16384.size a)
    (inbB : ∀ a, (![j, 8192] : Fin 2 → ℕ) a + S1x8192.size a ≤ S26x16384.size a)
    (fa0 fa : Buf (Elt F) ((mIa).view.loc (thr L d))) (fb0 fb : Buf (Elt F) ((mIb).view.loc (thr L d)))
    (hfa : fa = View.write (Elt F) (mIa).view fa0 (fetched (F := F) j 0 inbA fx) Finset.univ)
    (hfb : fb = View.write (Elt F) (mIb).view fb0 (fetched (F := F) j 8192 inbB fx) Finset.univ)
    (hfetch : ∀ (off : ℕ) (hoff : off + 8192 ≤ 16384) (inb : ∀ a, (![j, off] : Fin 2 → ℕ) a + S1x8192.size a ≤ S26x16384.size a)
      (b : ℕ) (hb : b < 8192), fetched (F := F) j off inb fx (ix1 ⟨b, hb⟩) = fx (ix2 ⟨j, hj⟩ ⟨b + off, by omega⟩))
    (hrw1 : ∀ (f : Buf (Elt F) ((mIa).view.loc (thr L d))) (P : S8192.Idx → Elt F .i32) (y : S8192.Idx), (mIa).view.read (Elt F) (View.write (Elt F) (mIa).view f P Finset.univ) y = P y)
    (hrw2 : ∀ (f : Buf (Elt F) ((mIb).view.loc (thr L d))) (P : S8192.Idx → Elt F .i32) (y : S8192.Idx), (mIb).view.read (Elt F) (View.write (Elt F) (mIb).view f P Finset.univ) y = P y) :
    IdxOK (F := F) L d j hj n fx fa fb := by
  intro _
  subst hfa hfb
  constructor
  · intro b hb; rw [hrw1]; exact hfetch 0 (by decide) inbA b hb
  · intro b hb; rw [hrw2]; exact hfetch 8192 (by decide) inbB b hb

end Cert.Proof.BodyTop
-- ==== Proof.BodyTopP369.lean ====
/-
  Piece 4 of the tile's function (the fetch of field 6, the loops of field 6, the fetch of field 7, the loops of field 7, the fetch of field 8), as a rule for the piece at the head of
  a program: from the tile's rows holding the specification's values below the piece's first field to the same below its
  last field's successor, everything else the tile holds unchanged.
-/
import proofs.«204037_g66941360275737_cont_sun_c4_657_24_alg».proof.Proof.BodyTopEnd
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 4 of the tile's function: from the invariant below field 6 to the invariant below field 8, field 8's index row fetched. -/
theorem part369_spec (hD : DRules (F := F) L d defs) {α : Type} (kk : (Σ' (v169 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 6)
    (p : PT (F := F) L α) (hp : p = (k0_part369 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 216#32))) (Scalar.minsi 36#32 (Scalar.maxsi 0#32 (Scalar.subi (hiW (cW L) (sW L)) 216#32))) (Scalar.cmpi .sgt (Scalar.minsi 36#32 (Scalar.maxsi 0#32 (Scalar.subi (hiW (cW L) (sW L)) 216#32))) (Scalar.minsi 36#32 (Scalar.maxsi 0#32 (Scalar.subi (loW (cW L) (sW L)) 216#32)))) >>= kk))
    (hk : ∀ Wc' g' fa' fb', (∀ p ∈ Wc', p ∈ W ∨ p.2 = none) → Agree (F := F) (Cert.Spec.lo (wid L)) (Cert.Spec.hi (wid L)) (Cert.Spec.outT fx tT) g' 8 → IdxOK (F := F) L d 8 (by decide) (k0_t49_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 288#32))), (Scalar.minsi 36#32 (Scalar.maxsi 0#32 (Scalar.subi (hiW (cW L) (sW L)) 288#32)))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part369_eq_skeleton]
  unfold Gen.k0_part369_skel

  -- field 6: its index row is fetched when the field has a row of the tile's
  ihave Hsems := (Entails.of_eq (sems_take2 (F := F) L d (SemLoc.dma cc0_scoped48.sem) (SemLoc.dma cc0_scoped49.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped48.sem) (SemLoc.dma cc0_scoped49.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 6 (by decide) (k0_t37_loop L).trips fx fan0 fbn0 :=
    idx_ok (F := F) L d 6 (by decide) _ _ fx _ _ _ fan0 _ fbn0 hfa0 hfb0
      (fun h0 => (field_guard_iff (L 0).val (L 1).val 6 hcL hsL (by decide)).2 (by have := t37_trips L; unfold wid at this; omega))
      (hfetch 6 (by decide) fx) hrw1 hrw2
  clear hfa0 hfb0 hWe0

  -- field 6: its loop over the tile's rows of the field, then the remainder loop, which has no trip
  have htr1 : (k0_t37_loop L).trips = dhi (wid L) 6 - dlo (wid L) 6 := t37_trips L
  ihave Hsems := (Entails.of_eq (sems_take3 (F := F) L d (SemLoc.dma cc0_scoped50.sem) (SemLoc.dma cc0_scoped51.sem) (SemLoc.dma cc0_scoped52.sem) (by decide +revert) (by decide +revert) (by decide +revert) (by decide +revert) (by decide +revert) (by decide +revert))) $$ Hsems
  icases Hsems with ⟨⟨HsC, HsD, HsE⟩, Hsems⟩
  iapply (hD.r6 _ _ _ _ _ _ _ O W Wn0 q fx (tT ⟨6, by decide⟩) _ _ fan0 fbn0 g
    hWn0 hpre hidx0)
  isplitl [Hmw]; · iexact Hmw
  isplitl [Ht7]; · iexact Ht7
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht7 Hr Ho Ha Hb Hg HsC HsD HsE HO
  ihave Hsems := (Entails.of_eq (sems_take3 (F := F) L d (SemLoc.dma cc0_scoped50.sem) (SemLoc.dma cc0_scoped51.sem) (SemLoc.dma cc0_scoped52.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (6 + 1) :=
    agree_step htr1 hA hg1 (fun x hx => outT_field fx tT 6 (by decide) x hx)
  clear hg1
  sl_exec
  sl_for0 (t40_trips L)

  -- field 7: its index row is fetched when the field has a row of the tile's
  ihave Hsems := (Entails.of_eq (sems_take2 (F := F) L d (SemLoc.dma cc0_scoped56.sem) (SemLoc.dma cc0_scoped57.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped56.sem) (SemLoc.dma cc0_scoped57.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 7 (by decide) (k0_t43_loop L).trips fx fan2 fbn2 :=
    idx_ok (F := F) L d 7 (by decide) _ _ fx _ _ _ fan2 _ fbn2 hfa2 hfb2
      (fun h0 => (field_guard_iff (L 0).val (L 1).val 7 hcL hsL (by decide)).2 (by have := t43_trips L; unfold wid at this; omega))
      (hfetch 7 (by decide) fx) hrw1 hrw2
  clear hfa2 hfb2 hWe2

  -- field 7: its loop over the tile's rows of the field, then the remainder loop, which has no trip
  have htr3 : (k0_t43_loop L).trips = dhi (wid L) 7 - dlo (wid L) 7 := t43_trips L
  ihave Hsems := (Entails.of_eq (sems_take3 (F := F) L d (SemLoc.dma cc0_scoped58.sem) (SemLoc.dma cc0_scoped59.sem) (SemLoc.dma cc0_scoped60.sem) (by decide +revert) (by decide +revert) (by decide +revert) (by decide +revert) (by decide +revert) (by decide +revert))) $$ Hsems
  icases Hsems with ⟨⟨HsC, HsD, HsE⟩, Hsems⟩
  iapply (hD.r7 _ _ _ _ _ _ _ _ O W Wn2 q fx (tT ⟨7, by decide⟩) _ _ fan2 fbn2 gn1
    hWn2 hpre hidx2)
  isplitl [Hmw]; · iexact Hmw
  isplitl [Ht8]; · iexact Ht8
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht8 Hr Ho Ha Hb Hg HsC HsD HsE HO
  ihave Hsems := (Entails.of_eq (sems_take3 (F := F) L d (SemLoc.dma cc0_scoped58.sem) (SemLoc.dma cc0_scoped59.sem) (SemLoc.dma cc0_scoped60.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (7 + 1) :=
    agree_step htr3 hAn1 hg3 (fun x hx => outT_field fx tT 7 (by decide) x hx)
  clear hg3
  sl_exec
  sl_for0 (t46_trips L)

  -- field 8, the piece's last: its index row is fetched when the field has a row of the tile's; the piece returns right
  -- after, so the two cases of the guard are run apart
  have htrE4 : (k0_t49_loop L).trips = dhi (wid L) 8 - dlo (wid L) 8 := t49_trips L
  ihave Hsems := (Entails.of_eq (sems_take2 (F := F) L d (SemLoc.dma cc0_scoped64.sem) (SemLoc.dma cc0_scoped65.sem) (by decide +revert) (by decide +revert) (by decide +revert))) $$ Hsems
  icases Hsems with ⟨⟨HsA, HsB⟩, Hsems⟩
  rcases Nat.lt_or_ge (dlo (wid L) 8) (dhi (wid L) 8) with hlt4 | hge4
  · have hgd4 := (field_guard_iff (L 0).val (L 1).val 8 hcL hsL (by decide)).2 hlt4
    sl_exec (disch := sl_exact hgd4)
    ihave Hsems := (Entails.of_eq (sems_take2 (F := F) L d (SemLoc.dma cc0_scoped64.sem) (SemLoc.dma cc0_scoped65.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn4, %hWe4, HO⟩
    ihave Ha := (ex_eq (fun f => (mIa).view.loc (thr L d) ↦{fullShare} f) _) $$ Ha
    icases Ha with ⟨%fan4, %hfa4, Ha⟩
    ihave Hb := (ex_eq (fun f => (mIb).view.loc (thr L d) ↦{fullShare} f) _) $$ Hb
    icases Hb with ⟨%fbn4, %hfb4, Hb⟩
    have hWn4 : ∀ p ∈ Wn4, p ∈ W ∨ p.2 = none := by rw [hWe4]; exact waits_ins hWn3 _ _
    have hidx4 : IdxOK (F := F) L d 8 (by decide) (k0_t49_loop L).trips fx fan4 fbn4 :=
      idx_ok_pos (F := F) L d 8 (by decide) _ fx _ _ _ fan4 _ fbn4 hfa4 hfb4 (hfetch 8 (by decide) fx) hrw1 hrw2
    iapply (hk Wn4 gn3 fan4 fbn4 hWn4 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng4 := mt (field_guard_iff (L 0).val (L 1).val 8 hcL hsL (by decide)).1 (Nat.not_lt.2 hge4)
    sl_exec (disch := sl_exact hng4)
    ihave Hsems := (Entails.of_eq (sems_take2 (F := F) L d (SemLoc.dma cc0_scoped64.sem) (SemLoc.dma cc0_scoped65.sem) (by decide +revert) (by decide +revert) (by decide +revert)).symm) $$ [HsA HsB Hsems]
    · isplitr [Hsems]
      · isplitl [HsA]
        · iexact HsA
        · iexact HsB
      · iexact Hsems
    have hidx4 : IdxOK (F := F) L d 8 (by decide) (k0_t49_loop L).trips fx fan2 fbn2 :=
      fun h0 => absurd h0 (by rw [htrE4]; omega)
    iapply (hk Wn3 gn3 fan2 fbn2 hWn3 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTop
-- ==== Proof.BodyTopP370.lean ====
/-
  Piece 5 of the tile's function (the loops of field 8, the fetch of field 9, the loops of field 9, the fetch of field 10), as a rule for the piece at the head of
  a program: from the tile's rows holding the specification's values below the piece's first field to the same below its
  last field's successor, everything else the tile holds unchanged.
-/
import proofs.«204037_g66941360275737_cont_sun_c4_657_24_alg».proof.Proof.BodyTopEnd
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 5 of the tile's function: from the invariant below field 8 to the invariant below field 10, field 10's index row fetched. -/
theorem part370_spec (hD : DRules (F := F) L d defs) {α : Type} (kk : (Σ' (v201 : BitVec 32) (c0_i32_120 : BitVec 32) (v208 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 8)
    (hidxIn : IdxOK (F := F) L d 8 (by decide) (k0_t49_loop L).trips fx fa fb)
    (p : PT (F := F) L α) (hp : p = (k0_part370 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 288#32))) (Scalar.minsi 36#32 (Scalar.maxsi 0#32 (Scalar.subi (hiW (cW L) (sW L)) 288#32))) >>= kk))
    (hk : ∀ Wc' g' fa' fb', (∀ p ∈ Wc', p ∈ W ∨ p.2 = none) → Agree (F := F) (Cert.Spec.lo (wid L)) (Cert.Spec.hi (wid L)) (Cert.Spec.outT fx tT) g' 10 → IdxOK (F := F) L d 10 (by decide) (k0_t61_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 360#32))), 0#32, (Scalar.subi (Scalar.minsi 36#32 (Scalar.maxsi 0#32 (Scalar.subi (hiW (cW L) (sW L)) 360#32))) (Scalar.minsi 36#32 (Scalar.maxsi 0#32 (Scalar.subi (loW (cW L) (sW L)) 360#32)))), 1#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part370_eq_skeleton]
  unfold Gen.k0_part370_skel

  -- field 8: its loop over the tile's rows of the field, then the remainder loop, which has no trip
  try sl_exec
  irw [Prog.bind_assoc]
  have htr0 : (k0_t49_loop L).trips = dhi (wid L) 8 - dlo (wid L) 8 := t49_trips L
  ihave Hsems := (Entails.of_eq (sems_take3 (F := F) L d (SemLoc.dma cc0_scoped66.sem) (SemLoc.dma cc0_scoped67.sem) (SemLoc.dma cc0_scoped68.sem) (by decide +revert) (by decide +revert) (by decide +revert) (by decide +revert) (by decide +revert) (by decide +revert))) $$ Hsems
  icases Hsems with ⟨⟨HsC, HsD, HsE⟩, Hsems⟩
  iapply (hD.r8 _ _ _ _ _ _ O W Wc q fx (tT ⟨8, by decide⟩) _ _ fa fb g
    hWc hpre hidxIn)
  isplitl [Hmw]; · iexact Hmw
  isplitl [Ht9]; · iexact Ht9
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht9 Hr Ho Ha Hb Hg HsC HsD HsE HO
  ihave Hsems := (Entails.of_eq (sems_take3 (F := F) L d (SemLoc.dma cc0_scoped66.sem) (SemLoc.dma cc0_scoped67.sem) (SemLoc.dma cc0_scoped68.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (8 + 1) :=
    agree_step htr0 hA hg0 (fun x hx => outT_field fx tT 8 (by decide) x hx)
  clear hg0
  first | sl_for0 (t52_trips L) | (irw [Prog.bind_assoc]; sl_for0 (t52_trips L)) | (sl_exec; sl_for0 (t52_trips L))

  -- field 9: its index row is fetched when the field has a row of the tile's
  ihave Hsems := (Entails.of_eq (sems_take2 (F := F) L d (SemLoc.dma cc0_scoped72.sem) (SemLoc.dma cc0_scoped73.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped72.sem) (SemLoc.dma cc0_scoped73.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 9 (by decide) (k0_t55_loop L).trips fx fan1 fbn1 :=
    idx_ok (F := F) L d 9 (by decide) _ _ fx _ _ _ fan1 _ fbn1 hfa1 hfb1
      (fun h0 => (field_guard_iff (L 0).val (L 1).val 9 hcL hsL (by decide)).2 (by have := t55_trips L; unfold wid at this; omega))
      (hfetch 9 (by decide) fx) hrw1 hrw2
  clear hfa1 hfb1 hWe1

  -- field 9: its loop over the tile's rows of the field, then the remainder loop, which has no trip
  have htr2 : (k0_t55_loop L).trips = dhi (wid L) 9 - dlo (wid L) 9 := t55_trips L
  ihave Hsems := (Entails.of_eq (sems_take3 (F := F) L d (SemLoc.dma cc0_scoped74.sem) (SemLoc.dma cc0_scoped75.sem) (SemLoc.dma cc0_scoped76.sem) (by decide +revert) (by decide +revert) (by decide +revert) (by decide +revert) (by decide +revert) (by decide +revert))) $$ Hsems
  icases Hsems with ⟨⟨HsC, HsD, HsE⟩, Hsems⟩
  iapply (hD.r9 _ _ _ _ _ _ _ O W Wn1 q fx (tT ⟨9, by decide⟩) _ _ fan1 fbn1 gn0
    hWn1 hpre hidx1)
  isplitl [Hmw]; · iexact Hmw
  isplitl [Ht10]; · iexact Ht10
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht10 Hr Ho Ha Hb Hg HsC HsD HsE HO
  ihave Hsems := (Entails.of_eq (sems_take3 (F := F) L d (SemLoc.dma cc0_scoped74.sem) (SemLoc.dma cc0_scoped75.sem) (SemLoc.dma cc0_scoped76.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (9 + 1) :=
    agree_step htr2 hAn0 hg2 (fun x hx => outT_field fx tT 9 (by decide) x hx)
  clear hg2
  sl_exec
  sl_for0 (t58_trips L)

  -- field 10, the piece's last: its index row is fetched when the field has a row of the tile's; the piece returns right
  -- after, so the two cases of the guard are run apart
  have htrE3 : (k0_t61_loop L).trips = dhi (wid L) 10 - dlo (wid L) 10 := t61_trips L
  ihave Hsems := (Entails.of_eq (sems_take2 (F := F) L d (SemLoc.dma cc0_scoped80.sem) (SemLoc.dma cc0_scoped81.sem) (by decide +revert) (by decide +revert) (by decide +revert))) $$ Hsems
  icases Hsems with ⟨⟨HsA, HsB⟩, Hsems⟩
  rcases Nat.lt_or_ge (dlo (wid L) 10) (dhi (wid L) 10) with hlt3 | hge3
  · have hgd3 := (field_guard_iff (L 0).val (L 1).val 10 hcL hsL (by decide)).2 hlt3
    sl_exec (disch := sl_exact hgd3)
    ihave Hsems := (Entails.of_eq (sems_take2 (F := F) L d (SemLoc.dma cc0_scoped80.sem) (SemLoc.dma cc0_scoped81.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn3, %hWe3, HO⟩
    ihave Ha := (ex_eq (fun f => (mIa).view.loc (thr L d) ↦{fullShare} f) _) $$ Ha
    icases Ha with ⟨%fan3, %hfa3, Ha⟩
    ihave Hb := (ex_eq (fun f => (mIb).view.loc (thr L d) ↦{fullShare} f) _) $$ Hb
    icases Hb with ⟨%fbn3, %hfb3, Hb⟩
    have hWn3 : ∀ p ∈ Wn3, p ∈ W ∨ p.2 = none := by rw [hWe3]; exact waits_ins hWn2 _ _
    have hidx3 : IdxOK (F := F) L d 10 (by decide) (k0_t61_loop L).trips fx fan3 fbn3 :=
      idx_ok_pos (F := F) L d 10 (by decide) _ fx _ _ _ fan3 _ fbn3 hfa3 hfb3 (hfetch 10 (by decide) fx) hrw1 hrw2
    iapply (hk Wn3 gn2 fan3 fbn3 hWn3 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng3 := mt (field_guard_iff (L 0).val (L 1).val 10 hcL hsL (by decide)).1 (Nat.not_lt.2 hge3)
    sl_exec (disch := sl_exact hng3)
    ihave Hsems := (Entails.of_eq (sems_take2 (F := F) L d (SemLoc.dma cc0_scoped80.sem) (SemLoc.dma cc0_scoped81.sem) (by decide +revert) (by decide +revert) (by decide +revert)).symm) $$ [HsA HsB Hsems]
    · isplitr [Hsems]
      · isplitl [HsA]
        · iexact HsA
        · iexact HsB
      · iexact Hsems
    have hidx3 : IdxOK (F := F) L d 10 (by decide) (k0_t61_loop L).trips fx fan1 fbn1 :=
      fun h0 => absurd h0 (by rw [htrE3]; omega)
    iapply (hk Wn2 gn2 fan1 fbn1 hWn2 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTop
-- ==== Proof.BodyTopP371.lean ====
/-
  Piece 6 of the tile's function (the loops of field 10, the fetch of field 11, the loops of field 11, the fetch of field 12), as a rule for the piece at the head of
  a program: from the tile's rows holding the specification's values below the piece's first field to the same below its
  last field's successor, everything else the tile holds unchanged.
-/
import proofs.«204037_g66941360275737_cont_sun_c4_657_24_alg».proof.Proof.BodyTopEnd
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 6 of the tile's function: from the invariant below field 10 to the invariant below field 12, field 12's index row fetched. -/
theorem part371_spec (hD : DRules (F := F) L d defs) {α : Type} (kk : (Σ' (v233 : BitVec 32) (c0_i32_140 : BitVec 32) (v244 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 10)
    (hidxIn : IdxOK (F := F) L d 10 (by decide) (k0_t61_loop L).trips fx fa fb)
    (p : PT (F := F) L α) (hp : p = (k0_part371 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 360#32))) 0#32 (Scalar.subi (Scalar.minsi 36#32 (Scalar.maxsi 0#32 (Scalar.subi (hiW (cW L) (sW L)) 360#32))) (Scalar.minsi 36#32 (Scalar.maxsi 0#32 (Scalar.subi (loW (cW L) (sW L)) 360#32)))) 1#32 >>= kk))
    (hk : ∀ Wc' g' fa' fb', (∀ p ∈ Wc', p ∈ W ∨ p.2 = none) → Agree (F := F) (Cert.Spec.lo (wid L)) (Cert.Spec.hi (wid L)) (Cert.Spec.outT fx tT) g' 12 → IdxOK (F := F) L d 12 (by decide) (k0_t73_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 432#32))), 0#32, (Scalar.addi (Scalar.minsi 36#32 (Scalar.maxsi 0#32 (Scalar.subi (loW (cW L) (sW L)) 432#32))) (Scalar.muli (Scalar.divsi (Scalar.subi (Scalar.minsi 36#32 (Scalar.maxsi 0#32 (Scalar.subi (hiW (cW L) (sW L)) 432#32))) (Scalar.minsi 36#32 (Scalar.maxsi 0#32 (Scalar.subi (loW (cW L) (sW L)) 432#32)))) 1#32) 1#32)), 1#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part371_eq_skeleton]
  unfold Gen.k0_part371_skel

  -- field 10: its loop over the tile's rows of the field, then the remainder loop, which has no trip
  try sl_exec
  irw [Prog.bind_assoc]
  have htr0 : (k0_t61_loop L).trips = dhi (wid L) 10 - dlo (wid L) 10 := t61_trips L
  ihave Hsems := (Entails.of_eq (sems_take3 (F := F) L d (SemLoc.dma cc0_scoped82.sem) (SemLoc.dma cc0_scoped83.sem) (SemLoc.dma cc0_scoped84.sem) (by decide +revert) (by decide +revert) (by decide +revert) (by decide +revert) (by decide +revert) (by decide +revert))) $$ Hsems
  icases Hsems with ⟨⟨HsC, HsD, HsE⟩, Hsems⟩
  iapply (hD.r10 _ _ _ _ _ _ _ _ O W Wc q fx (tT ⟨10, by decide⟩) _ _ fa fb g
    hWc hpre hidxIn)
  isplitl [Hmw]; · iexact Hmw
  isplitl [Ht11]; · iexact Ht11
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht11 Hr Ho Ha Hb Hg HsC HsD HsE HO
  ihave Hsems := (Entails.of_eq (sems_take3 (F := F) L d (SemLoc.dma cc0_scoped82.sem) (SemLoc.dma cc0_scoped83.sem) (SemLoc.dma cc0_scoped84.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (10 + 1) :=
    agree_step htr0 hA hg0 (fun x hx => outT_field fx tT 10 (by decide) x hx)
  clear hg0
  first | sl_for0 (t64_trips L) | (irw [Prog.bind_assoc]; sl_for0 (t64_trips L)) | (sl_exec; sl_for0 (t64_trips L))

  -- field 11: its index row is fetched when the field has a row of the tile's
  ihave Hsems := (Entails.of_eq (sems_take2 (F := F) L d (SemLoc.dma cc0_scoped88.sem) (SemLoc.dma cc0_scoped89.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped88.sem) (SemLoc.dma cc0_scoped89.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 11 (by decide) (k0_t67_loop L).trips fx fan1 fbn1 :=
    idx_ok (F := F) L d 11 (by decide) _ _ fx _ _ _ fan1 _ fbn1 hfa1 hfb1
      (fun h0 => (field_guard_iff (L 0).val (L 1).val 11 hcL hsL (by decide)).2 (by have := t67_trips L; unfold wid at this; omega))
      (hfetch 11 (by decide) fx) hrw1 hrw2
  clear hfa1 hfb1 hWe1

  -- field 11: its loop over the tile's rows of the field, then the remainder loop, which has no trip
  have htr2 : (k0_t67_loop L).trips = dhi (wid L) 11 - dlo (wid L) 11 := t67_trips L
  ihave Hsems := (Entails.of_eq (sems_take3 (F := F) L d (SemLoc.dma cc0_scoped90.sem) (SemLoc.dma cc0_scoped91.sem) (SemLoc.dma cc0_scoped92.sem) (by decide +revert) (by decide +revert) (by decide +revert) (by decide +revert) (by decide +revert) (by decide +revert))) $$ Hsems
  icases Hsems with ⟨⟨HsC, HsD, HsE⟩, Hsems⟩
  iapply (hD.r11 _ _ _ _ _ _ _ _ _ O W Wn1 q fx (tT ⟨11, by decide⟩) _ _ fan1 fbn1 gn0
    hWn1 hpre hidx1)
  isplitl [Hmw]; · iexact Hmw
  isplitl [Ht12]; · iexact Ht12
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht12 Hr Ho Ha Hb Hg HsC HsD HsE HO
  ihave Hsems := (Entails.of_eq (sems_take3 (F := F) L d (SemLoc.dma cc0_scoped90.sem) (SemLoc.dma cc0_scoped91.sem) (SemLoc.dma cc0_scoped92.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (11 + 1) :=
    agree_step htr2 hAn0 hg2 (fun x hx => outT_field fx tT 11 (by decide) x hx)
  clear hg2
  sl_exec
  sl_for0 (t70_trips L)

  -- field 12, the piece's last: its index row is fetched when the field has a row of the tile's; the piece returns right
  -- after, so the two cases of the guard are run apart
  have htrE3 : (k0_t73_loop L).trips = dhi (wid L) 12 - dlo (wid L) 12 := t73_trips L
  ihave Hsems := (Entails.of_eq (sems_take2 (F := F) L d (SemLoc.dma cc0_scoped96.sem) (SemLoc.dma cc0_scoped97.sem) (by decide +revert) (by decide +revert) (by decide +revert))) $$ Hsems
  icases Hsems with ⟨⟨HsA, HsB⟩, Hsems⟩
  rcases Nat.lt_or_ge (dlo (wid L) 12) (dhi (wid L) 12) with hlt3 | hge3
  · have hgd3 := (field_guard_iff (L 0).val (L 1).val 12 hcL hsL (by decide)).2 hlt3
    sl_exec (disch := sl_exact hgd3)
    ihave Hsems := (Entails.of_eq (sems_take2 (F := F) L d (SemLoc.dma cc0_scoped96.sem) (SemLoc.dma cc0_scoped97.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn3, %hWe3, HO⟩
    ihave Ha := (ex_eq (fun f => (mIa).view.loc (thr L d) ↦{fullShare} f) _) $$ Ha
    icases Ha with ⟨%fan3, %hfa3, Ha⟩
    ihave Hb := (ex_eq (fun f => (mIb).view.loc (thr L d) ↦{fullShare} f) _) $$ Hb
    icases Hb with ⟨%fbn3, %hfb3, Hb⟩
    have hWn3 : ∀ p ∈ Wn3, p ∈ W ∨ p.2 = none := by rw [hWe3]; exact waits_ins hWn2 _ _
    have hidx3 : IdxOK (F := F) L d 12 (by decide) (k0_t73_loop L).trips fx fan3 fbn3 :=
      idx_ok_pos (F := F) L d 12 (by decide) _ fx _ _ _ fan3 _ fbn3 hfa3 hfb3 (hfetch 12 (by decide) fx) hrw1 hrw2
    iapply (hk Wn3 gn2 fan3 fbn3 hWn3 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng3 := mt (field_guard_iff (L 0).val (L 1).val 12 hcL hsL (by decide)).1 (Nat.not_lt.2 hge3)
    sl_exec (disch := sl_exact hng3)
    ihave Hsems := (Entails.of_eq (sems_take2 (F := F) L d (SemLoc.dma cc0_scoped96.sem) (SemLoc.dma cc0_scoped97.sem) (by decide +revert) (by decide +revert) (by decide +revert)).symm) $$ [HsA HsB Hsems]
    · isplitr [Hsems]
      · isplitl [HsA]
        · iexact HsA
        · iexact HsB
      · iexact Hsems
    have hidx3 : IdxOK (F := F) L d 12 (by decide) (k0_t73_loop L).trips fx fan1 fbn1 :=
      fun h0 => absurd h0 (by rw [htrE3]; omega)
    iapply (hk Wn2 gn2 fan1 fbn1 hWn2 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTop
-- ==== Proof.BodyTopP372.lean ====
/-
  Piece 7 of the tile's function (the loops of field 12, the fetch of field 13, the loops of field 13, the fetch of field 14, the loops of field 14), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 7 of the tile's function: from the invariant below field 12 to the invariant below field 15. -/
theorem part372_spec (hD : DRules (F := F) L d defs) {α : Type} (kk : (BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 12)
    (hidxIn : IdxOK (F := F) L d 12 (by decide) (k0_t73_loop L).trips fx fa fb)
    (p : PT (F := F) L α) (hp : p = (k0_part372 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 432#32))) 0#32 (Scalar.addi (Scalar.minsi 36#32 (Scalar.maxsi 0#32 (Scalar.subi (loW (cW L) (sW L)) 432#32))) (Scalar.muli (Scalar.divsi (Scalar.subi (Scalar.minsi 36#32 (Scalar.maxsi 0#32 (Scalar.subi (hiW (cW L) (sW L)) 432#32))) (Scalar.minsi 36#32 (Scalar.maxsi 0#32 (Scalar.subi (loW (cW L) (sW L)) 432#32)))) 1#32) 1#32)) 1#32 >>= kk))
    (hk : ∀ Wc' g' fa' fb', (∀ p ∈ Wc', p ∈ W ∨ p.2 = none) → Agree (F := F) (Cert.Spec.lo (wid L)) (Cert.Spec.hi (wid L)) (Cert.Spec.outT fx tT) g' 15 →
      TRes (F := F) L d O Wc' q fx tT g' fa' fb' ⊢ wp frame (wpE defs Variants.none (thr L d) none) Set.univ (kk (540#32)) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part372_eq_skeleton]
  unfold Gen.k0_part372_skel

  -- field 12: its loop over the tile's rows of the field, then the remainder loop, which has no trip
  try sl_exec
  irw [Prog.bind_assoc]
  have htr0 : (k0_t73_loop L).trips = dhi (wid L) 12 - dlo (wid L) 12 := t73_trips L
  ihave Hsems := (Entails.of_eq (sems_take3 (F := F) L d (SemLoc.dma cc0_scoped98.sem) (SemLoc.dma cc0_scoped99.sem) (SemLoc.dma cc0_scoped100.sem) (by decide +revert) (by decide +revert) (by decide +revert) (by decide +revert) (by decide +revert) (by decide +revert))) $$ Hsems
  icases Hsems with ⟨⟨HsC, HsD, HsE⟩, Hsems⟩
  iapply (hD.r12 _ _ _ _ _ _ _ _ O W Wc q fx (tT ⟨12, by decide⟩) _ _ fa fb g
    hWc hpre hidxIn)
  isplitl [Hmw]; · iexact Hmw
  isplitl [Ht13]; · iexact Ht13
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht13 Hr Ho Ha Hb Hg HsC HsD HsE HO
  ihave Hsems := (Entails.of_eq (sems_take3 (F := F) L d (SemLoc.dma cc0_scoped98.sem) (SemLoc.dma cc0_scoped99.sem) (SemLoc.dma cc0_scoped100.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (12 + 1) :=
    agree_step htr0 hA hg0 (fun x hx => outT_field fx tT 12 (by decide) x hx)
  clear hg0
  first | sl_for0 (t76_trips L) | (irw [Prog.bind_assoc]; sl_for0 (t76_trips L)) | (sl_exec; sl_for0 (t76_trips L))

  -- field 13: its index row is fetched when the field has a row of the tile's
  ihave Hsems := (Entails.of_eq (sems_take2 (F := F) L d (SemLoc.dma cc0_scoped104.sem) (SemLoc.dma cc0_scoped105.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped104.sem) (SemLoc.dma cc0_scoped105.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 13 (by decide) (k0_t79_loop L).trips fx fan1 fbn1 :=
    idx_ok (F := F) L d 13 (by decide) _ _ fx _ _ _ fan1 _ fbn1 hfa1 hfb1
      (fun h0 => (field_guard_iff (L 0).val (L 1).val 13 hcL hsL (by decide)).2 (by have := t79_trips L; unfold wid at this; omega))
      (hfetch 13 (by decide) fx) hrw1 hrw2
  clear hfa1 hfb1 hWe1

  -- field 13: its loop over the tile's rows of the field, then the remainder loop, which has no trip
  have htr2 : (k0_t79_loop L).trips = dhi (wid L) 13 - dlo (wid L) 13 := t79_trips L
  ihave Hsems := (Entails.of_eq (sems_take3 (F := F) L d (SemLoc.dma cc0_scoped106.sem) (SemLoc.dma cc0_scoped107.sem) (SemLoc.dma cc0_scoped108.sem) (by decide +revert) (by decide +revert) (by decide +revert) (by decide +revert) (by decide +revert) (by decide +revert))) $$ Hsems
  icases Hsems with ⟨⟨HsC, HsD, HsE⟩, Hsems⟩
  iapply (hD.r13 _ _ _ _ _ _ _ _ _ O W Wn1 q fx (tT ⟨13, by decide⟩) _ _ fan1 fbn1 gn0
    hWn1 hpre hidx1)
  isplitl [Hmw]; · iexact Hmw
  isplitl [Ht14]; · iexact Ht14
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht14 Hr Ho Ha Hb Hg HsC HsD HsE HO
  ihave Hsems := (Entails.of_eq (sems_take3 (F := F) L d (SemLoc.dma cc0_scoped106.sem) (SemLoc.dma cc0_scoped107.sem) (SemLoc.dma cc0_scoped108.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (13 + 1) :=
    agree_step htr2 hAn0 hg2 (fun x hx => outT_field fx tT 13 (by decide) x hx)
  clear hg2
  sl_exec
  sl_for0 (t82_trips L)

  -- field 14: its index row is fetched when the field has a row of the tile's
  ihave Hsems := (Entails.of_eq (sems_take2 (F := F) L d (SemLoc.dma cc0_scoped112.sem) (SemLoc.dma cc0_scoped113.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped112.sem) (SemLoc.dma cc0_scoped113.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn3, %hWe3, HO⟩
  ihave Ha := (ex_eq (fun f => (mIa).view.loc (thr L d) ↦{fullShare} f) _) $$ Ha
  icases Ha with ⟨%fan3, %hfa3, Ha⟩
  ihave Hb := (ex_eq (fun f => (mIb).view.loc (thr L d) ↦{fullShare} f) _) $$ Hb
  icases Hb with ⟨%fbn3, %hfb3, Hb⟩
  have hWn3 : ∀ p ∈ Wn3, p ∈ W ∨ p.2 = none := by rw [hWe3]; exact waits_dite hWn2 _ _ _
  have hidx3 : IdxOK (F := F) L d 14 (by decide) (k0_t85_loop L).trips fx fan3 fbn3 :=
    idx_ok (F := F) L d 14 (by decide) _ _ fx _ _ _ fan3 _ fbn3 hfa3 hfb3
      (fun h0 => (field_guard_iff (L 0).val (L 1).val 14 hcL hsL (by decide)).2 (by have := t85_trips L; unfold wid at this; omega))
      (hfetch 14 (by decide) fx) hrw1 hrw2
  clear hfa3 hfb3 hWe3

  -- field 14: its loop over the tile's rows of the field, then the remainder loop, which has no trip
  have htr4 : (k0_t85_loop L).trips = dhi (wid L) 14 - dlo (wid L) 14 := t85_trips L
  ihave Hsems := (Entails.of_eq (sems_take3 (F := F) L d (SemLoc.dma cc0_scoped114.sem) (SemLoc.dma cc0_scoped115.sem) (SemLoc.dma cc0_scoped116.sem) (by decide +revert) (by decide +revert) (by decide +revert) (by decide +revert) (by decide +revert) (by decide +revert))) $$ Hsems
  icases Hsems with ⟨⟨HsC, HsD, HsE⟩, Hsems⟩
  iapply (hD.r14 _ _ _ _ _ _ _ _ _ O W Wn3 q fx (tT ⟨14, by decide⟩) _ _ fan3 fbn3 gn2
    hWn3 hpre hidx3)
  isplitl [Hmw]; · iexact Hmw
  isplitl [Ht15]; · iexact Ht15
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc4 %fr4 %fo4 %gn4 %Wn4 %hg4 %hWn4 Hmw Ht15 Hr Ho Ha Hb Hg HsC HsD HsE HO
  ihave Hsems := (Entails.of_eq (sems_take3 (F := F) L d (SemLoc.dma cc0_scoped114.sem) (SemLoc.dma cc0_scoped115.sem) (SemLoc.dma cc0_scoped116.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn4 : Agree (F := F) (Cert.Spec.lo (wid L)) (Cert.Spec.hi (wid L)) (Cert.Spec.outT fx tT) gn4 (14 + 1) :=
    agree_step htr4 hAn2 hg4 (fun x hx => outT_field fx tT 14 (by decide) x hx)
  clear hg4
  sl_exec
  sl_for0 (t88_trips L)
  sl_exec
  iapply (hk Wn4 gn4 fan3 fbn3 hWn4 hAn4)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopP373.lean ====
/-
  Piece 8 of the tile's function (the fetch of field 15, the loops of field 15, the fetch of field 16, the loops of field 16), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 8 of the tile's function: from the invariant below field 15 to the invariant below field 17. -/
theorem part373_spec (hD : DRules (F := F) L d defs) {α : Type} (kk : (Σ' (c36_i32_185 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 15)
    (p : PT (F := F) L α) (hp : p = (k0_part373 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 540#32 >>= kk))
    (hk : ∀ Wc' g' fa' fb', (∀ p ∈ Wc', p ∈ W ∨ p.2 = none) → Agree (F := F) (Cert.Spec.lo (wid L)) (Cert.Spec.hi (wid L)) (Cert.Spec.outT fx tT) g' 17 →
      TRes (F := F) L d O Wc' q fx tT g' fa' fb' ⊢ wp frame (wpE defs Variants.none (thr L d) none) Set.univ (kk ⟨36#32, (Scalar.maxsi 0#32 (Scalar.subi (loW (cW L) (sW L)) 612#32))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part373_eq_skeleton]
  unfold Gen.k0_part373_skel

  -- field 15: its index row is fetched when the field has a row of the tile's
  ihave Hsems := (Entails.of_eq (sems_take2 (F := F) L d (SemLoc.dma cc0_scoped120.sem) (SemLoc.dma cc0_scoped121.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped120.sem) (SemLoc.dma cc0_scoped121.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 15 (by decide) (k0_t91_loop L).trips fx fan0 fbn0 :=
    idx_ok (F := F) L d 15 (by decide) _ _ fx _ _ _ fan0 _ fbn0 hfa0 hfb0
      (fun h0 => (field_guard_iff (L 0).val (L 1).val 15 hcL hsL (by decide)).2 (by have := t91_trips L; unfold wid at this; omega))
      (hfetch 15 (by decide) fx) hrw1 hrw2
  clear hfa0 hfb0 hWe0

  -- field 15: its loop over the tile's rows of the field, then the remainder loop, which has no trip
  have htr1 : (k0_t91_loop L).trips = dhi (wid L) 15 - dlo (wid L) 15 := t91_trips L
  ihave Hsems := (Entails.of_eq (sems_take3 (F := F) L d (SemLoc.dma cc0_scoped122.sem) (SemLoc.dma cc0_scoped123.sem) (SemLoc.dma cc0_scoped124.sem) (by decide +revert) (by decide +revert) (by decide +revert) (by decide +revert) (by decide +revert) (by decide +revert))) $$ Hsems
  icases Hsems with ⟨⟨HsC, HsD, HsE⟩, Hsems⟩
  iapply (hD.r15 _ _ _ _ _ _ O W Wn0 q fx (tT ⟨15, by decide⟩) _ _ fan0 fbn0 g
    hWn0 hpre hidx0)
  isplitl [Hmw]; · iexact Hmw
  isplitl [Ht16]; · iexact Ht16
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht16 Hr Ho Ha Hb Hg HsC HsD HsE HO
  ihave Hsems := (Entails.of_eq (sems_take3 (F := F) L d (SemLoc.dma cc0_scoped122.sem) (SemLoc.dma cc0_scoped123.sem) (SemLoc.dma cc0_scoped124.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (15 + 1) :=
    agree_step htr1 hA hg1 (fun x hx => outT_field fx tT 15 (by decide) x hx)
  clear hg1
  sl_exec
  sl_for0 (t94_trips L)

  -- field 16: its index row is fetched when the field has a row of the tile's
  ihave Hsems := (Entails.of_eq (sems_take2 (F := F) L d (SemLoc.dma cc0_scoped128.sem) (SemLoc.dma cc0_scoped129.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped128.sem) (SemLoc.dma cc0_scoped129.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 16 (by decide) (k0_t97_loop L).trips fx fan2 fbn2 :=
    idx_ok (F := F) L d 16 (by decide) _ _ fx _ _ _ fan2 _ fbn2 hfa2 hfb2
      (fun h0 => (field_guard_iff (L 0).val (L 1).val 16 hcL hsL (by decide)).2 (by have := t97_trips L; unfold wid at this; omega))
      (hfetch 16 (by decide) fx) hrw1 hrw2
  clear hfa2 hfb2 hWe2

  -- field 16: its loop over the tile's rows of the field, then the remainder loop, which has no trip
  have htr3 : (k0_t97_loop L).trips = dhi (wid L) 16 - dlo (wid L) 16 := t97_trips L
  ihave Hsems := (Entails.of_eq (sems_take3 (F := F) L d (SemLoc.dma cc0_scoped130.sem) (SemLoc.dma cc0_scoped131.sem) (SemLoc.dma cc0_scoped132.sem) (by decide +revert) (by decide +revert) (by decide +revert) (by decide +revert) (by decide +revert) (by decide +revert))) $$ Hsems
  icases Hsems with ⟨⟨HsC, HsD, HsE⟩, Hsems⟩
  iapply (hD.r16 _ _ _ _ _ _ O W Wn2 q fx (tT ⟨16, by decide⟩) _ _ fan2 fbn2 gn1
    hWn2 hpre hidx2)
  isplitl [Hmw]; · iexact Hmw
  isplitl [Ht17]; · iexact Ht17
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht17 Hr Ho Ha Hb Hg HsC HsD HsE HO
  ihave Hsems := (Entails.of_eq (sems_take3 (F := F) L d (SemLoc.dma cc0_scoped130.sem) (SemLoc.dma cc0_scoped131.sem) (SemLoc.dma cc0_scoped132.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (16 + 1) :=
    agree_step htr3 hAn1 hg3 (fun x hx => outT_field fx tT 16 (by decide) x hx)
  clear hg3
  sl_exec
  sl_for0 (t100_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopP374.lean ====
/-
  Piece 9 of the tile's function (the fetch of field 17, the loops of field 17, the fetch of field 18, the loops of field 18), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 9 of the tile's function: from the invariant below field 17 to the invariant below field 19. -/
theorem part374_spec (hD : DRules (F := F) L d defs) {α : Type} (kk : (Σ' (v345 : BitVec 32) (v346 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 17)
    (p : PT (F := F) L α) (hp : p = (k0_part374 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 36#32 (Scalar.maxsi 0#32 (Scalar.subi (loW (cW L) (sW L)) 612#32)) >>= kk))
    (hk : ∀ Wc' g' fa' fb', (∀ p ∈ Wc', p ∈ W ∨ p.2 = none) → Agree (F := F) (Cert.Spec.lo (wid L)) (Cert.Spec.hi (wid L)) (Cert.Spec.outT fx tT) g' 19 →
      TRes (F := F) L d O Wc' q fx tT g' fa' fb' ⊢ wp frame (wpE defs Variants.none (thr L d) none) Set.univ (kk ⟨(Scalar.minsi 36#32 (Scalar.maxsi 0#32 (Scalar.subi (loW (cW L) (sW L)) 684#32))), (Scalar.subi (hiW (cW L) (sW L)) 684#32), 0#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part374_eq_skeleton]
  unfold Gen.k0_part374_skel

  -- field 17: its index row is fetched when the field has a row of the tile's
  ihave Hsems := (Entails.of_eq (sems_take2 (F := F) L d (SemLoc.dma cc0_scoped136.sem) (SemLoc.dma cc0_scoped137.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped136.sem) (SemLoc.dma cc0_scoped137.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 17 (by decide) (k0_t103_loop L).trips fx fan0 fbn0 :=
    idx_ok (F := F) L d 17 (by decide) _ _ fx _ _ _ fan0 _ fbn0 hfa0 hfb0
      (fun h0 => (field_guard_iff (L 0).val (L 1).val 17 hcL hsL (by decide)).2 (by have := t103_trips L; unfold wid at this; omega))
      (hfetch 17 (by decide) fx) hrw1 hrw2
  clear hfa0 hfb0 hWe0

  -- field 17: its loop over the tile's rows of the field, then the remainder loop, which has no trip
  have htr1 : (k0_t103_loop L).trips = dhi (wid L) 17 - dlo (wid L) 17 := t103_trips L
  ihave Hsems := (Entails.of_eq (sems_take3 (F := F) L d (SemLoc.dma cc0_scoped138.sem) (SemLoc.dma cc0_scoped139.sem) (SemLoc.dma cc0_scoped140.sem) (by decide +revert) (by decide +revert) (by decide +revert) (by decide +revert) (by decide +revert) (by decide +revert))) $$ Hsems
  icases Hsems with ⟨⟨HsC, HsD, HsE⟩, Hsems⟩
  iapply (hD.r17 _ _ _ _ _ _ _ O W Wn0 q fx (tT ⟨17, by decide⟩) _ _ fan0 fbn0 g
    hWn0 hpre hidx0)
  isplitl [Hmw]; · iexact Hmw
  isplitl [Ht18]; · iexact Ht18
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht18 Hr Ho Ha Hb Hg HsC HsD HsE HO
  ihave Hsems := (Entails.of_eq (sems_take3 (F := F) L d (SemLoc.dma cc0_scoped138.sem) (SemLoc.dma cc0_scoped139.sem) (SemLoc.dma cc0_scoped140.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (17 + 1) :=
    agree_step htr1 hA hg1 (fun x hx => outT_field fx tT 17 (by decide) x hx)
  clear hg1
  sl_exec
  sl_for0 (t106_trips L)

  -- field 18: its index row is fetched when the field has a row of the tile's
  ihave Hsems := (Entails.of_eq (sems_take2 (F := F) L d (SemLoc.dma cc0_scoped144.sem) (SemLoc.dma cc0_scoped145.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped144.sem) (SemLoc.dma cc0_scoped145.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 18 (by decide) (k0_t109_loop L).trips fx fan2 fbn2 :=
    idx_ok (F := F) L d 18 (by decide) _ _ fx _ _ _ fan2 _ fbn2 hfa2 hfb2
      (fun h0 => (field_guard_iff (L 0).val (L 1).val 18 hcL hsL (by decide)).2 (by have := t109_trips L; unfold wid at this; omega))
      (hfetch 18 (by decide) fx) hrw1 hrw2
  clear hfa2 hfb2 hWe2

  -- field 18: its loop over the tile's rows of the field, then the remainder loop, which has no trip
  have htr3 : (k0_t109_loop L).trips = dhi (wid L) 18 - dlo (wid L) 18 := t109_trips L
  ihave Hsems := (Entails.of_eq (sems_take3 (F := F) L d (SemLoc.dma cc0_scoped146.sem) (SemLoc.dma cc0_scoped147.sem) (SemLoc.dma cc0_scoped148.sem) (by decide +revert) (by decide +revert) (by decide +revert) (by decide +revert) (by decide +revert) (by decide +revert))) $$ Hsems
  icases Hsems with ⟨⟨HsC, HsD, HsE⟩, Hsems⟩
  iapply (hD.r18 _ _ _ _ _ _ _ O W Wn2 q fx (tT ⟨18, by decide⟩) _ _ fan2 fbn2 gn1
    hWn2 hpre hidx2)
  isplitl [Hmw]; · iexact Hmw
  isplitl [Ht19]; · iexact Ht19
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht19 Hr Ho Ha Hb Hg HsC HsD HsE HO
  ihave Hsems := (Entails.of_eq (sems_take3 (F := F) L d (SemLoc.dma cc0_scoped146.sem) (SemLoc.dma cc0_scoped147.sem) (SemLoc.dma cc0_scoped148.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (18 + 1) :=
    agree_step htr3 hAn1 hg3 (fun x hx => outT_field fx tT 18 (by decide) x hx)
  clear hg3
  sl_exec
  sl_for0 (t112_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopP375.lean ====
/-
  Piece 10 of the tile's function (the fetch of field 19, the loops of field 19, the fetch of field 20, the loops of field 20), as a rule for the piece at the head of
  a program: from the tile's rows holding the specification's values below the piece's first field to the same below its
  last field's successor, everything else the tile holds unchanged.
-/
import proofs.«204037_g66941360275737_cont_sun_c4_657_24_alg».proof.Proof.BodyTopBase
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 10 of the tile's function: from the invariant below field 19 to the invariant below field 21. -/
theorem part375_spec (hD : DRules (F := F) L d defs) {α : Type} (kk : (Σ' (v377 : BitVec 32) (v380 : BitVec 32), BitVec 1) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 19)
    (p : PT (F := F) L α) (hp : p = (k0_part375 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 684#32))) (Scalar.subi (hiW (cW L) (sW L)) 684#32) 0#32 >>= kk))
    (hk : ∀ Wc' g' fa' fb', (∀ p ∈ Wc', p ∈ W ∨ p.2 = none) → Agree (F := F) (Cert.Spec.lo (wid L)) (Cert.Spec.hi (wid L)) (Cert.Spec.outT fx tT) g' 21 →
      TRes (F := F) L d O Wc' q fx tT g' fa' fb' ⊢ wp frame (wpE defs Variants.none (thr L d) none) Set.univ (kk ⟨(Scalar.minsi 36#32 (Scalar.maxsi 0#32 (Scalar.subi (loW (cW L) (sW L)) 756#32))), (Scalar.minsi 36#32 (Scalar.maxsi 0#32 (Scalar.subi (hiW (cW L) (sW L)) 756#32))), (Scalar.cmpi .sgt (Scalar.minsi 36#32 (Scalar.maxsi 0#32 (Scalar.subi (hiW (cW L) (sW L)) 756#32))) (Scalar.minsi 36#32 (Scalar.maxsi 0#32 (Scalar.subi (loW (cW L) (sW L)) 756#32))))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part375_eq_skeleton]
  unfold Gen.k0_part375_skel

  -- field 19: its index row is fetched when the field has a row of the tile's
  ihave Hsems := (Entails.of_eq (sems_take2 (F := F) L d (SemLoc.dma cc0_scoped152.sem) (SemLoc.dma cc0_scoped153.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped152.sem) (SemLoc.dma cc0_scoped153.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 19 (by decide) (k0_t115_loop L).trips fx fan0 fbn0 :=
    idx_ok (F := F) L d 19 (by decide) _ _ fx _ _ _ fan0 _ fbn0 hfa0 hfb0
      (fun h0 => (field_guard_iff (L 0).val (L 1).val 19 hcL hsL (by decide)).2 (by have := t115_trips L; unfold wid at this; omega))
      (hfetch 19 (by decide) fx) hrw1 hrw2
  clear hfa0 hfb0 hWe0

  -- field 19: its loop over the tile's rows of the field, then the remainder loop, which has no trip
  have htr1 : (k0_t115_loop L).trips = dhi (wid L) 19 - dlo (wid L) 19 := t115_trips L
  ihave Hsems := (Entails.of_eq (sems_take3 (F := F) L d (SemLoc.dma cc0_scoped154.sem) (SemLoc.dma cc0_scoped155.sem) (SemLoc.dma cc0_scoped156.sem) (by decide +revert) (by decide +revert) (by decide +revert) (by decide +revert) (by decide +revert) (by decide +revert))) $$ Hsems
  icases Hsems with ⟨⟨HsC, HsD, HsE⟩, Hsems⟩
  iapply (hD.r19 _ _ _ _ _ _ _ O W Wn0 q fx (tT ⟨19, by decide⟩) _ _ fan0 fbn0 g
    hWn0 hpre hidx0)
  isplitl [Hmw]; · iexact Hmw
  isplitl [Ht20]; · iexact Ht20
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht20 Hr Ho Ha Hb Hg HsC HsD HsE HO
  ihave Hsems := (Entails.of_eq (sems_take3 (F := F) L d (SemLoc.dma cc0_scoped154.sem) (SemLoc.dma cc0_scoped155.sem) (SemLoc.dma cc0_scoped156.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (19 + 1) :=
    agree_step htr1 hA hg1 (fun x hx => outT_field fx tT 19 (by decide) x hx)
  clear hg1
  sl_exec
  sl_for0 (t118_trips L)

  -- field 20: its index row is fetched when the field has a row of the tile's
  ihave Hsems := (Entails.of_eq (sems_take2 (F := F) L d (SemLoc.dma cc0_scoped160.sem) (SemLoc.dma cc0_scoped161.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped160.sem) (SemLoc.dma cc0_scoped161.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 20 (by decide) (k0_t121_loop L).trips fx fan2 fbn2 :=
    idx_ok (F := F) L d 20 (by decide) _ _ fx _ _ _ fan2 _ fbn2 hfa2 hfb2
      (fun h0 => (field_guard_iff (L 0).val (L 1).val 20 hcL hsL (by decide)).2 (by have := t121_trips L; unfold wid at this; omega))
      (hfetch 20 (by decide) fx) hrw1 hrw2
  clear hfa2 hfb2 hWe2

  -- field 20: its loop over the tile's rows of the field, then the remainder loop, which has no trip
  have htr3 : (k0_t121_loop L).trips = dhi (wid L) 20 - dlo (wid L) 20 := t121_trips L
  ihave Hsems := (Entails.of_eq (sems_take3 (F := F) L d (SemLoc.dma cc0_scoped162.sem) (SemLoc.dma cc0_scoped163.sem) (SemLoc.dma cc0_scoped164.sem) (by decide +revert) (by decide +revert) (by decide +revert) (by decide +revert) (by decide +revert) (by decide +revert))) $$ Hsems
  icases Hsems with ⟨⟨HsC, HsD, HsE⟩, Hsems⟩
  iapply (hD.r20 _ _ _ _ _ _ _ _ O W Wn2 q fx (tT ⟨20, by decide⟩) _ _ fan2 fbn2 gn1
    hWn2 hpre hidx2)
  isplitl [Hmw]; · iexact Hmw
  isplitl [Ht21]; · iexact Ht21
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht21 Hr Ho Ha Hb Hg HsC HsD HsE HO
  ihave Hsems := (Entails.of_eq (sems_take3 (F := F) L d (SemLoc.dma cc0_scoped162.sem) (SemLoc.dma cc0_scoped163.sem) (SemLoc.dma cc0_scoped164.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (20 + 1) :=
    agree_step htr3 hAn1 hg3 (fun x hx => outT_field fx tT 20 (by decide) x hx)
  clear hg3
  sl_exec
  sl_for0 (t124_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTop
-- ==== Proof.BodyTopP376.lean ====
/-
  Piece 11 of the tile's function (the fetch of field 21, the loops of field 21, the fetch of field 22, the loops of field 22, the fetch of field 23), as a rule for the piece at the head of
  a program: from the tile's rows holding the specification's values below the piece's first field to the same below its
  last field's successor, everything else the tile holds unchanged.
-/
import proofs.«204037_g66941360275737_cont_sun_c4_657_24_alg».proof.Proof.BodyTopEnd
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 11 of the tile's function: from the invariant below field 21 to the invariant below field 23, field 23's index row fetched. -/
theorem part376_spec (hD : DRules (F := F) L d defs) {α : Type} (kk : (Σ' (v409 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 21)
    (p : PT (F := F) L α) (hp : p = (k0_part376 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 756#32))) (Scalar.minsi 36#32 (Scalar.maxsi 0#32 (Scalar.subi (hiW (cW L) (sW L)) 756#32))) (Scalar.cmpi .sgt (Scalar.minsi 36#32 (Scalar.maxsi 0#32 (Scalar.subi (hiW (cW L) (sW L)) 756#32))) (Scalar.minsi 36#32 (Scalar.maxsi 0#32 (Scalar.subi (loW (cW L) (sW L)) 756#32)))) >>= kk))
    (hk : ∀ Wc' g' fa' fb', (∀ p ∈ Wc', p ∈ W ∨ p.2 = none) → Agree (F := F) (Cert.Spec.lo (wid L)) (Cert.Spec.hi (wid L)) (Cert.Spec.outT fx tT) g' 23 → IdxOK (F := F) L d 23 (by decide) (k0_t139_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 828#32))), (Scalar.minsi 36#32 (Scalar.maxsi 0#32 (Scalar.subi (hiW (cW L) (sW L)) 828#32)))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part376_eq_skeleton]
  unfold Gen.k0_part376_skel

  -- field 21: its index row is fetched when the field has a row of the tile's
  ihave Hsems := (Entails.of_eq (sems_take2 (F := F) L d (SemLoc.dma cc0_scoped168.sem) (SemLoc.dma cc0_scoped169.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped168.sem) (SemLoc.dma cc0_scoped169.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 21 (by decide) (k0_t127_loop L).trips fx fan0 fbn0 :=
    idx_ok (F := F) L d 21 (by decide) _ _ fx _ _ _ fan0 _ fbn0 hfa0 hfb0
      (fun h0 => (field_guard_iff (L 0).val (L 1).val 21 hcL hsL (by decide)).2 (by have := t127_trips L; unfold wid at this; omega))
      (hfetch 21 (by decide) fx) hrw1 hrw2
  clear hfa0 hfb0 hWe0

  -- field 21: its loop over the tile's rows of the field, then the remainder loop, which has no trip
  have htr1 : (k0_t127_loop L).trips = dhi (wid L) 21 - dlo (wid L) 21 := t127_trips L
  ihave Hsems := (Entails.of_eq (sems_take3 (F := F) L d (SemLoc.dma cc0_scoped170.sem) (SemLoc.dma cc0_scoped171.sem) (SemLoc.dma cc0_scoped172.sem) (by decide +revert) (by decide +revert) (by decide +revert) (by decide +revert) (by decide +revert) (by decide +revert))) $$ Hsems
  icases Hsems with ⟨⟨HsC, HsD, HsE⟩, Hsems⟩
  iapply (hD.r21 _ _ _ _ _ _ _ O W Wn0 q fx (tT ⟨21, by decide⟩) _ _ fan0 fbn0 g
    hWn0 hpre hidx0)
  isplitl [Hmw]; · iexact Hmw
  isplitl [Ht22]; · iexact Ht22
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht22 Hr Ho Ha Hb Hg HsC HsD HsE HO
  ihave Hsems := (Entails.of_eq (sems_take3 (F := F) L d (SemLoc.dma cc0_scoped170.sem) (SemLoc.dma cc0_scoped171.sem) (SemLoc.dma cc0_scoped172.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (21 + 1) :=
    agree_step htr1 hA hg1 (fun x hx => outT_field fx tT 21 (by decide) x hx)
  clear hg1
  sl_exec
  sl_for0 (t130_trips L)

  -- field 22: its index row is fetched when the field has a row of the tile's
  ihave Hsems := (Entails.of_eq (sems_take2 (F := F) L d (SemLoc.dma cc0_scoped176.sem) (SemLoc.dma cc0_scoped177.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped176.sem) (SemLoc.dma cc0_scoped177.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 22 (by decide) (k0_t133_loop L).trips fx fan2 fbn2 :=
    idx_ok (F := F) L d 22 (by decide) _ _ fx _ _ _ fan2 _ fbn2 hfa2 hfb2
      (fun h0 => (field_guard_iff (L 0).val (L 1).val 22 hcL hsL (by decide)).2 (by have := t133_trips L; unfold wid at this; omega))
      (hfetch 22 (by decide) fx) hrw1 hrw2
  clear hfa2 hfb2 hWe2

  -- field 22: its loop over the tile's rows of the field, then the remainder loop, which has no trip
  have htr3 : (k0_t133_loop L).trips = dhi (wid L) 22 - dlo (wid L) 22 := t133_trips L
  ihave Hsems := (Entails.of_eq (sems_take3 (F := F) L d (SemLoc.dma cc0_scoped178.sem) (SemLoc.dma cc0_scoped179.sem) (SemLoc.dma cc0_scoped180.sem) (by decide +revert) (by decide +revert) (by decide +revert) (by decide +revert) (by decide +revert) (by decide +revert))) $$ Hsems
  icases Hsems with ⟨⟨HsC, HsD, HsE⟩, Hsems⟩
  iapply (hD.r22 _ _ _ _ _ _ _ _ O W Wn2 q fx (tT ⟨22, by decide⟩) _ _ fan2 fbn2 gn1
    hWn2 hpre hidx2)
  isplitl [Hmw]; · iexact Hmw
  isplitl [Ht23]; · iexact Ht23
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht23 Hr Ho Ha Hb Hg HsC HsD HsE HO
  ihave Hsems := (Entails.of_eq (sems_take3 (F := F) L d (SemLoc.dma cc0_scoped178.sem) (SemLoc.dma cc0_scoped179.sem) (SemLoc.dma cc0_scoped180.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (22 + 1) :=
    agree_step htr3 hAn1 hg3 (fun x hx => outT_field fx tT 22 (by decide) x hx)
  clear hg3
  sl_exec
  sl_for0 (t136_trips L)

  -- field 23, the piece's last: its index row is fetched when the field has a row of the tile's; the piece returns right
  -- after, so the two cases of the guard are run apart
  have htrE4 : (k0_t139_loop L).trips = dhi (wid L) 23 - dlo (wid L) 23 := t139_trips L
  ihave Hsems := (Entails.of_eq (sems_take2 (F := F) L d (SemLoc.dma cc0_scoped184.sem) (SemLoc.dma cc0_scoped185.sem) (by decide +revert) (by decide +revert) (by decide +revert))) $$ Hsems
  icases Hsems with ⟨⟨HsA, HsB⟩, Hsems⟩
  rcases Nat.lt_or_ge (dlo (wid L) 23) (dhi (wid L) 23) with hlt4 | hge4
  · have hgd4 := (field_guard_iff (L 0).val (L 1).val 23 hcL hsL (by decide)).2 hlt4
    sl_exec (disch := sl_exact hgd4)
    ihave Hsems := (Entails.of_eq (sems_take2 (F := F) L d (SemLoc.dma cc0_scoped184.sem) (SemLoc.dma cc0_scoped185.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn4, %hWe4, HO⟩
    ihave Ha := (ex_eq (fun f => (mIa).view.loc (thr L d) ↦{fullShare} f) _) $$ Ha
    icases Ha with ⟨%fan4, %hfa4, Ha⟩
    ihave Hb := (ex_eq (fun f => (mIb).view.loc (thr L d) ↦{fullShare} f) _) $$ Hb
    icases Hb with ⟨%fbn4, %hfb4, Hb⟩
    have hWn4 : ∀ p ∈ Wn4, p ∈ W ∨ p.2 = none := by rw [hWe4]; exact waits_ins hWn3 _ _
    have hidx4 : IdxOK (F := F) L d 23 (by decide) (k0_t139_loop L).trips fx fan4 fbn4 :=
      idx_ok_pos (F := F) L d 23 (by decide) _ fx _ _ _ fan4 _ fbn4 hfa4 hfb4 (hfetch 23 (by decide) fx) hrw1 hrw2
    iapply (hk Wn4 gn3 fan4 fbn4 hWn4 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng4 := mt (field_guard_iff (L 0).val (L 1).val 23 hcL hsL (by decide)).1 (Nat.not_lt.2 hge4)
    sl_exec (disch := sl_exact hng4)
    ihave Hsems := (Entails.of_eq (sems_take2 (F := F) L d (SemLoc.dma cc0_scoped184.sem) (SemLoc.dma cc0_scoped185.sem) (by decide +revert) (by decide +revert) (by decide +revert)).symm) $$ [HsA HsB Hsems]
    · isplitr [Hsems]
      · isplitl [HsA]
        · iexact HsA
        · iexact HsB
      · iexact Hsems
    have hidx4 : IdxOK (F := F) L d 23 (by decide) (k0_t139_loop L).trips fx fan2 fbn2 :=
      fun h0 => absurd h0 (by rw [htrE4]; omega)
    iapply (hk Wn3 gn3 fan2 fbn2 hWn3 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTop
-- ==== Proof.BodyTopP377.lean ====
/-
  Piece 12 of the tile's function (the loops of field 23, the fetch of field 24, the loops of field 24, the fetch of field 25), as a rule for the piece at the head of
  a program: from the tile's rows holding the specification's values below the piece's first field to the same below its
  last field's successor, everything else the tile holds unchanged.
-/
import proofs.«204037_g66941360275737_cont_sun_c4_657_24_alg».proof.Proof.BodyTopEnd
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

set_option maxHeartbeats 40000000 in
/-- Piece 12 of the tile's function: from the invariant below field 23 to the invariant below field 25, field 25's index row fetched. -/
theorem part377_spec (hD : DRules (F := F) L d defs) {α : Type} (kk : (Σ' (v441 : BitVec 32) (c0_i32_270 : BitVec 32) (v448 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 23)
    (hidxIn : IdxOK (F := F) L d 23 (by decide) (k0_t139_loop L).trips fx fa fb)
    (p : PT (F := F) L α) (hp : p = (k0_part377 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 828#32))) (Scalar.minsi 36#32 (Scalar.maxsi 0#32 (Scalar.subi (hiW (cW L) (sW L)) 828#32))) >>= kk))
    (hk : ∀ Wc' g' fa' fb', (∀ p ∈ Wc', p ∈ W ∨ p.2 = none) → Agree (F := F) (Cert.Spec.lo (wid L)) (Cert.Spec.hi (wid L)) (Cert.Spec.outT fx tT) g' 25 → IdxOK (F := F) L d 25 (by decide) (k0_t151_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 900#32))), 0#32, (Scalar.subi (Scalar.minsi 36#32 (Scalar.maxsi 0#32 (Scalar.subi (hiW (cW L) (sW L)) 900#32))) (Scalar.minsi 36#32 (Scalar.maxsi 0#32 (Scalar.subi (loW (cW L) (sW L)) 900#32)))), 1#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetch.fetch_read (F := F) j hj off hoff inb fx b hb
  have hrw1 := Cert.Proof.BodyFetch.read_write_whole1 (F := F) d ((L 0).castLE hcore0) ((L 1).castLE hsub0)
  have hrw2 := Cert.Proof.BodyFetch.read_write_whole2 (F := F) d ((L 0).castLE hcore0) ((L 1).castLE hsub0)
  rw [Gen.k0_part377_eq_skeleton]
  unfold Gen.k0_part377_skel

  -- field 23: its loop over the tile's rows of the field, then the remainder loop, which has no trip
  try sl_exec
  irw [Prog.bind_assoc]
  have htr0 : (k0_t139_loop L).trips = dhi (wid L) 23 - dlo (wid L) 23 := t139_trips L
  ihave Hsems := (Entails.of_eq (sems_take3 (F := F) L d (SemLoc.dma cc0_scoped186.sem) (SemLoc.dma cc0_scoped187.sem) (SemLoc.dma cc0_scoped188.sem) (by decide +revert) (by decide +revert) (by decide +revert) (by decide +revert) (by decide +revert) (by decide +revert))) $$ Hsems
  icases Hsems with ⟨⟨HsC, HsD, HsE⟩, Hsems⟩
  iapply (hD.r23 _ _ _ _ _ _ O W Wc q fx (tT ⟨23, by decide⟩) _ _ fa fb g
    hWc hpre hidxIn)
  isplitl [Hmw]; · iexact Hmw
  isplitl [Ht24]; · iexact Ht24
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht24 Hr Ho Ha Hb Hg HsC HsD HsE HO
  ihave Hsems := (Entails.of_eq (sems_take3 (F := F) L d (SemLoc.dma cc0_scoped186.sem) (SemLoc.dma cc0_scoped187.sem) (SemLoc.dma cc0_scoped188.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (23 + 1) :=
    agree_step htr0 hA hg0 (fun x hx => outT_field fx tT 23 (by decide) x hx)
  clear hg0
  first | sl_for0 (t142_trips L) | (irw [Prog.bind_assoc]; sl_for0 (t142_trips L)) | (sl_exec; sl_for0 (t142_trips L))

  -- field 24: its index row is fetched when the field has a row of the tile's
  ihave Hsems := (Entails.of_eq (sems_take2 (F := F) L d (SemLoc.dma cc0_scoped192.sem) (SemLoc.dma cc0_scoped193.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped192.sem) (SemLoc.dma cc0_scoped193.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 24 (by decide) (k0_t145_loop L).trips fx fan1 fbn1 :=
    idx_ok (F := F) L d 24 (by decide) _ _ fx _ _ _ fan1 _ fbn1 hfa1 hfb1
      (fun h0 => (field_guard_iff (L 0).val (L 1).val 24 hcL hsL (by decide)).2 (by have := t145_trips L; unfold wid at this; omega))
      (hfetch 24 (by decide) fx) hrw1 hrw2
  clear hfa1 hfb1 hWe1

  -- field 24: its loop over the tile's rows of the field, then the remainder loop, which has no trip
  have htr2 : (k0_t145_loop L).trips = dhi (wid L) 24 - dlo (wid L) 24 := t145_trips L
  ihave Hsems := (Entails.of_eq (sems_take3 (F := F) L d (SemLoc.dma cc0_scoped194.sem) (SemLoc.dma cc0_scoped195.sem) (SemLoc.dma cc0_scoped196.sem) (by decide +revert) (by decide +revert) (by decide +revert) (by decide +revert) (by decide +revert) (by decide +revert))) $$ Hsems
  icases Hsems with ⟨⟨HsC, HsD, HsE⟩, Hsems⟩
  iapply (hD.r24 _ _ _ _ _ _ _ O W Wn1 q fx (tT ⟨24, by decide⟩) _ _ fan1 fbn1 gn0
    hWn1 hpre hidx1)
  isplitl [Hmw]; · iexact Hmw
  isplitl [Ht25]; · iexact Ht25
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht25 Hr Ho Ha Hb Hg HsC HsD HsE HO
  ihave Hsems := (Entails.of_eq (sems_take3 (F := F) L d (SemLoc.dma cc0_scoped194.sem) (SemLoc.dma cc0_scoped195.sem) (SemLoc.dma cc0_scoped196.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (24 + 1) :=
    agree_step htr2 hAn0 hg2 (fun x hx => outT_field fx tT 24 (by decide) x hx)
  clear hg2
  sl_exec
  sl_for0 (t148_trips L)

  -- field 25, the piece's last: its index row is fetched when the field has a row of the tile's; the piece returns right
  -- after, so the two cases of the guard are run apart
  have htrE3 : (k0_t151_loop L).trips = dhi (wid L) 25 - dlo (wid L) 25 := t151_trips L
  ihave Hsems := (Entails.of_eq (sems_take2 (F := F) L d (SemLoc.dma cc0_scoped200.sem) (SemLoc.dma cc0_scoped201.sem) (by decide +revert) (by decide +revert) (by decide +revert))) $$ Hsems
  icases Hsems with ⟨⟨HsA, HsB⟩, Hsems⟩
  rcases Nat.lt_or_ge (dlo (wid L) 25) (dhi (wid L) 25) with hlt3 | hge3
  · have hgd3 := (field_guard_iff (L 0).val (L 1).val 25 hcL hsL (by decide)).2 hlt3
    sl_exec (disch := sl_exact hgd3)
    ihave Hsems := (Entails.of_eq (sems_take2 (F := F) L d (SemLoc.dma cc0_scoped200.sem) (SemLoc.dma cc0_scoped201.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn3, %hWe3, HO⟩
    ihave Ha := (ex_eq (fun f => (mIa).view.loc (thr L d) ↦{fullShare} f) _) $$ Ha
    icases Ha with ⟨%fan3, %hfa3, Ha⟩
    ihave Hb := (ex_eq (fun f => (mIb).view.loc (thr L d) ↦{fullShare} f) _) $$ Hb
    icases Hb with ⟨%fbn3, %hfb3, Hb⟩
    have hWn3 : ∀ p ∈ Wn3, p ∈ W ∨ p.2 = none := by rw [hWe3]; exact waits_ins hWn2 _ _
    have hidx3 : IdxOK (F := F) L d 25 (by decide) (k0_t151_loop L).trips fx fan3 fbn3 :=
      idx_ok_pos (F := F) L d 25 (by decide) _ fx _ _ _ fan3 _ fbn3 hfa3 hfb3 (hfetch 25 (by decide) fx) hrw1 hrw2
    iapply (hk Wn3 gn2 fan3 fbn3 hWn3 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng3 := mt (field_guard_iff (L 0).val (L 1).val 25 hcL hsL (by decide)).1 (Nat.not_lt.2 hge3)
    sl_exec (disch := sl_exact hng3)
    ihave Hsems := (Entails.of_eq (sems_take2 (F := F) L d (SemLoc.dma cc0_scoped200.sem) (SemLoc.dma cc0_scoped201.sem) (by decide +revert) (by decide +revert) (by decide +revert)).symm) $$ [HsA HsB Hsems]
    · isplitr [Hsems]
      · isplitl [HsA]
        · iexact HsA
        · iexact HsB
      · iexact Hsems
    have hidx3 : IdxOK (F := F) L d 25 (by decide) (k0_t151_loop L).trips fx fan1 fbn1 :=
      fun h0 => absurd h0 (by rw [htrE3]; omega)
    iapply (hk Wn2 gn2 fan1 fbn1 hWn2 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTop
-- ==== Proof.BodyTop.lean ====
/-
  The tile's whole function: the twelve pieces in sequence, the last field's loops, the return.
-/
import proofs.«204037_g66941360275737_cont_sun_c4_657_24_alg».proof.Proof.BodyTopP366
import proofs.«204037_g66941360275737_cont_sun_c4_657_24_alg».proof.Proof.BodyTopP367
import proofs.«204037_g66941360275737_cont_sun_c4_657_24_alg».proof.Proof.BodyTopP368
import proofs.«204037_g66941360275737_cont_sun_c4_657_24_alg».proof.Proof.BodyTopP369
import proofs.«204037_g66941360275737_cont_sun_c4_657_24_alg».proof.Proof.BodyTopP370
import proofs.«204037_g66941360275737_cont_sun_c4_657_24_alg».proof.Proof.BodyTopP371
import proofs.«204037_g66941360275737_cont_sun_c4_657_24_alg».proof.Proof.BodyTopP372
import proofs.«204037_g66941360275737_cont_sun_c4_657_24_alg».proof.Proof.BodyTopP373
import proofs.«204037_g66941360275737_cont_sun_c4_657_24_alg».proof.Proof.BodyTopP374
import proofs.«204037_g66941360275737_cont_sun_c4_657_24_alg».proof.Proof.BodyTopP375
import proofs.«204037_g66941360275737_cont_sun_c4_657_24_alg».proof.Proof.BodyTopP376
import proofs.«204037_g66941360275737_cont_sun_c4_657_24_alg».proof.Proof.BodyTopP377
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTop

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.KernelIdeal.UnitArithK

variable (L : grid0.Coords) (d : Dev nD) (defs : Defs nD τ sig (Elt F) Λ₀)

/-- The first piece only computes the tile's range: its first and one-past-last row, as words. -/
theorem part365_eq : k0_part365 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 = pure ⟨(loW (cW L) (sW L)), (hiW (cW L) (sW L)), 0#32⟩ := rfl

set_option maxHeartbeats 40000000 in
/-- The tile's function on its tile's share: the rows it owns end at the specification's values. -/
theorem tile_run (hD : DRules (F := F) L d defs) (O : CellTallies nD τ sig (HIx 1)) (W : Waits sig (HIx 1)) (q : PosShare TreeShare)
    (fx : S26x16384.Idx → BitVec 32) (tT : Fin 26 → S36x100000.Idx → Elt F .f32)
    (g0 : Buf (Elt F) ((mO).view.loc (thr L d)))
    (hpre : ∀ y, (fx y).toNat < 100000)
    (p : PT (F := F) L PUnit) (hp : p = cc0__encode (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207) :
    (iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ (∃ f, ((mIa).view.loc (thr L d) ↦{fullShare} f)) ∗ (∃ f, ((mIb).view.loc (thr L d) ↦{fullShare} f))
        ∗ ((mO).view.loc (thr L d) ↦[rowsSet (Cert.Spec.lo (wid L)) (Cert.Spec.hi (wid L))]{fullShare} g0)
        ∗ (SparseCore.Cfg.ownSems0 (thr L d) : sProp 𝕄)
        ∗ owes (thr L d) O W) : sProp 𝕄)
      ⊢ wp frame (wpE defs Variants.none (thr L d) none) Set.univ p
          fun _ => iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ (∃ f, ((mIa).view.loc (thr L d) ↦{fullShare} f)) ∗ (∃ f, ((mIb).view.loc (thr L d) ↦{fullShare} f))
        ∗ (∃ g, ((mO).view.loc (thr L d) ↦[rowsSet (Cert.Spec.lo (wid L)) (Cert.Spec.hi (wid L))]{fullShare} g)
            ∗ ⌜∀ x ∈ rowsSet (Cert.Spec.lo (wid L)) (Cert.Spec.hi (wid L)), g x = Cert.Spec.outT fx tT x⌝)
        ∗ (SparseCore.Cfg.ownSems0 (thr L d) : sProp 𝕄)
        ∗ ∃ W', ⌜∀ p ∈ W', p ∈ W ∨ p.2 = none⌝ ∗ owes (thr L d) O W') := by
  have hW0 : ∀ p ∈ W, p ∈ W ∨ p.2 = none := fun p hp => Or.inl hp
  have hA0 := agree_zero (F := F) (Cert.Spec.lo (wid L)) (Cert.Spec.hi (wid L)) (Cert.Spec.outT fx tT) g0
  have hcL : (L 0).val < 2 := (L 0).isLt
  have hsL : (L 1).val < 16 := (L 1).isLt
  -- the twelve pieces in sequence, each from the bundle the one before leaves
  have chain : ∀ (fa : Buf (Elt F) ((mIa).view.loc (thr L d))) (fb : Buf (Elt F) ((mIb).view.loc (thr L d))),
      TRes (F := F) L d O W q fx tT g0 fa fb ⊢ wp frame (wpE defs Variants.none (thr L d) none) Set.univ p
          fun _ => iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ (∃ f, ((mIa).view.loc (thr L d) ↦{fullShare} f)) ∗ (∃ f, ((mIb).view.loc (thr L d) ↦{fullShare} f))
        ∗ (∃ g, ((mO).view.loc (thr L d) ↦[rowsSet (Cert.Spec.lo (wid L)) (Cert.Spec.hi (wid L))]{fullShare} g)
            ∗ ⌜∀ x ∈ rowsSet (Cert.Spec.lo (wid L)) (Cert.Spec.hi (wid L)), g x = Cert.Spec.outT fx tT x⌝)
        ∗ (SparseCore.Cfg.ownSems0 (thr L d) : sProp 𝕄)
        ∗ ∃ W', ⌜∀ p ∈ W', p ∈ W ∨ p.2 = none⌝ ∗ owes (thr L d) O W') := by
    intro fa fb
    rw [hp]
    rw [Gen.cc0__encode_eq_skeleton]
    unfold Gen.cc0__encode_skel
    rw [part365_eq]
    dsimp only [Prog.pure_eq_ret, Prog.bind_ret]
    -- piece 1
    generalize hp100 : (Bind.bind (k0_part366 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _) _) = p100
    refine part366_spec (F := F) L d defs hD _ _ O W W q fx tT hpre g0 fa fb hW0 hA0 p100 hp100.symm ?_
    intro Wn100 gn100 fan100 fbn100 hWn100 hAn100
    clear hp100 p100
    try dsimp only
    -- piece 2
    generalize hp101 : (Bind.bind (k0_part367 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p101
    refine part367_spec (F := F) L d defs hD _ _ O W Wn100 q fx tT hpre gn100 fan100 fbn100 hWn100 hAn100 p101 hp101.symm ?_
    intro Wn101 gn101 fan101 fbn101 hWn101 hAn101
    clear hp101 p101
    try dsimp only
    -- piece 3
    generalize hp102 : (Bind.bind (k0_part368 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p102
    refine part368_spec (F := F) L d defs hD _ _ O W Wn101 q fx tT hpre gn101 fan101 fbn101 hWn101 hAn101 p102 hp102.symm ?_
    intro Wn102 gn102 fan102 fbn102 hWn102 hAn102
    clear hp102 p102
    try dsimp only
    -- piece 4
    generalize hp103 : (Bind.bind (k0_part369 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p103
    refine part369_spec (F := F) L d defs hD _ _ O W Wn102 q fx tT hpre gn102 fan102 fbn102 hWn102 hAn102 p103 hp103.symm ?_
    intro Wn103 gn103 fan103 fbn103 hWn103 hAn103 hidx103
    clear hp103 p103
    try dsimp only
    -- piece 5
    generalize hp104 : (Bind.bind (k0_part370 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p104
    refine part370_spec (F := F) L d defs hD _ _ O W Wn103 q fx tT hpre gn103 fan103 fbn103 hWn103 hAn103 hidx103 p104 hp104.symm ?_
    intro Wn104 gn104 fan104 fbn104 hWn104 hAn104 hidx104
    clear hp104 p104
    try dsimp only
    -- piece 6
    generalize hp105 : (Bind.bind (k0_part371 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _ _) _) = p105
    refine part371_spec (F := F) L d defs hD _ _ O W Wn104 q fx tT hpre gn104 fan104 fbn104 hWn104 hAn104 hidx104 p105 hp105.symm ?_
    intro Wn105 gn105 fan105 fbn105 hWn105 hAn105 hidx105
    clear hp105 p105
    try dsimp only
    -- piece 7
    generalize hp106 : (Bind.bind (k0_part372 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _ _) _) = p106
    refine part372_spec (F := F) L d defs hD _ _ O W Wn105 q fx tT hpre gn105 fan105 fbn105 hWn105 hAn105 hidx105 p106 hp106.symm ?_
    intro Wn106 gn106 fan106 fbn106 hWn106 hAn106
    clear hp106 p106
    try dsimp only
    -- piece 8
    generalize hp107 : (Bind.bind (k0_part373 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _) _) = p107
    refine part373_spec (F := F) L d defs hD _ _ O W Wn106 q fx tT hpre gn106 fan106 fbn106 hWn106 hAn106 p107 hp107.symm ?_
    intro Wn107 gn107 fan107 fbn107 hWn107 hAn107
    clear hp107 p107
    try dsimp only
    -- piece 9
    generalize hp108 : (Bind.bind (k0_part374 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p108
    refine part374_spec (F := F) L d defs hD _ _ O W Wn107 q fx tT hpre gn107 fan107 fbn107 hWn107 hAn107 p108 hp108.symm ?_
    intro Wn108 gn108 fan108 fbn108 hWn108 hAn108
    clear hp108 p108
    try dsimp only
    -- piece 10
    generalize hp109 : (Bind.bind (k0_part375 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p109
    refine part375_spec (F := F) L d defs hD _ _ O W Wn108 q fx tT hpre gn108 fan108 fbn108 hWn108 hAn108 p109 hp109.symm ?_
    intro Wn109 gn109 fan109 fbn109 hWn109 hAn109
    clear hp109 p109
    try dsimp only
    -- piece 11
    generalize hp110 : (Bind.bind (k0_part376 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p110
    refine part376_spec (F := F) L d defs hD _ _ O W Wn109 q fx tT hpre gn109 fan109 fbn109 hWn109 hAn109 p110 hp110.symm ?_
    intro Wn110 gn110 fan110 fbn110 hWn110 hAn110 hidx110
    clear hp110 p110
    try dsimp only
    -- piece 12
    generalize hp111 : (Bind.bind (k0_part377 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p111
    refine part377_spec (F := F) L d defs hD _ _ O W Wn110 q fx tT hpre gn110 fan110 fbn110 hWn110 hAn110 hidx110 p111 hp111.symm ?_
    intro Wn111 gn111 fan111 fbn111 hWn111 hAn111 hidx111
    clear hp111 p111
    try dsimp only
    -- field 25's loops and the return
    unfold TRes
    iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%frz, Hr⟩, ⟨%foz, Ho⟩, Ha, Hb, Hg, Hsems, HO⟩

    -- field 25: its loop over the tile's rows of the field, then the remainder loop, which has no trip
    sl_exec
    have htr112 : (k0_t151_loop L).trips = dhi (wid L) 25 - dlo (wid L) 25 := t151_trips L
    ihave Hsems := (Entails.of_eq (sems_take3 (F := F) L d (SemLoc.dma cc0_scoped202.sem) (SemLoc.dma cc0_scoped203.sem) (SemLoc.dma cc0_scoped204.sem) (by decide +revert) (by decide +revert) (by decide +revert) (by decide +revert) (by decide +revert) (by decide +revert))) $$ Hsems
    icases Hsems with ⟨⟨HsC, HsD, HsE⟩, Hsems⟩
    iapply (hD.r25 _ _ _ O W Wn111 q fx (tT ⟨25, by decide⟩) _ _ fan111 fbn111 gn111
      hWn111 hpre hidx111)
    isplitl [Hmw]; · iexact Hmw
    isplitl [Ht26]; · iexact Ht26
    isplitl [Hr]; · iexact Hr
    isplitl [Ho]; · iexact Ho
    isplitl [Ha]; · iexact Ha
    isplitl [Hb]; · iexact Hb
    isplitl [Hg]; · iexact Hg
    isplitl [HsC]; · iexact HsC
    isplitl [HsD]; · iexact HsD
    isplitl [HsE]; · iexact HsE
    isplitl [HO]; · iexact HO
    iintro %acc112 %fr112 %fo112 %gn112 %Wn112 %hg112 %hWn112 Hmw Ht26 Hr Ho Ha Hb Hg HsC HsD HsE HO
    ihave Hsems := (Entails.of_eq (sems_take3 (F := F) L d (SemLoc.dma cc0_scoped202.sem) (SemLoc.dma cc0_scoped203.sem) (SemLoc.dma cc0_scoped204.sem) (by decide +revert) (by decide +revert) (by decide +revert) (by decide +revert) (by decide +revert) (by decide +revert)).symm) $$ [HsC HsD HsE Hsems]
    · isplitr [Hsems]
      · isplitl [HsC]
        · iexact HsC
        · isplitl [HsD]
          · iexact HsD
          · iexact HsE
      · iexact Hsems
    have hAn112 : Agree (F := F) (Cert.Spec.lo (wid L)) (Cert.Spec.hi (wid L)) (Cert.Spec.outT fx tT) gn112 (25 + 1) :=
      agree_step htr112 hAn111 hg112 (fun x hx => outT_field fx tT 25 (by decide) x hx)
    clear hg112
    sl_exec
    sl_for0 (t154_trips L)
    sl_exec
    sl_step
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexists _; iexact Ha
    isplitl [Hb]; · iexists _; iexact Hb
    isplitl [Hg]
    · iexists gn112
      isplitl [Hg]
      · iexact Hg
      · ipureintro
        intro x hx
        exact hAn112 x hx (by have := (mem_rowsSet.1 hx).2; have := Cert.Spec.hi_le (wid L) (wid_lt L); omega)
    isplitl [Hsems]; · iexact Hsems
    iexists Wn112
    isplitr
    · ipureintro; exact hWn112
    · iexact HO

  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Hr, Ho, ⟨%fa, Ha⟩, ⟨%fb, Hb⟩, Hg, Hsems, HO⟩
  iapply (chain fa fb)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexact Hr
  isplitl [Ho]; · iexact Ho
  isplitl [Ha]; · iexact Ha
  isplitl [Hb]; · iexact Hb
  isplitl [Hg]; · iexact Hg
  isplitl [Hsems]; · iexact Hsems
  iexact HO

end Cert.Proof.BodyTop
-- ==== Proof.BodyRow.lean ====
import proofs.«204037_g66941360275737_cont_sun_c4_657_24_alg».proof.KernelIdeal.P03
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyRow

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Shapes1.Facts₀

variable {F : FTy → Type} [FloatOps F] [Facts]

abbrev UH : Type := URounds (GSem nD τ sig) ℕ
abbrev UU : Type := UH × Counters

local notation "𝕄" => MT nD τ sig (HIx 1) (Elt F) ℕ UU ℕ

/-- Row `off 0` of a table, as a vector of 100000 words. -/
abbrev srcRow (tbl : Memref sig .scVector .hbm S36x100000 .f32) (off : Fin 2 → Nat) (inb : ∀ a, off a + S1x100000.size a ≤ S36x100000.size a) :
    Memref sig .scVector .hbm S100000 .f32 :=
  (tbl.slice (Rect.unit (s := S36x100000) off S1x100000.size inb) (fun _ => rfl)).squeeze S100000 squeezes_S1x100000_S100000

/-- Half a row of the output array, as a vector of 8192 words. -/
abbrev dstRow (out : Memref sig .scVector .hbm S936x16384 .f32) (off : Fin 2 → Nat) (inb : ∀ a, off a + S1x8192.size a ≤ S936x16384.size a) :
    Memref sig .scVector .hbm S8192 .f32 :=
  (out.slice (Rect.unit (s := S936x16384) off S1x8192.size inb) (fun _ => rfl)).squeeze S8192 squeezes_S1x8192_S8192

variable (c : Fin τ.nSC) (s : Fin τ.nSub)

/-- One trip of a field's loop over its rows, up to the second output copy's issue: the table row into the row scratch, the first
    half gathered and copied out, the second half gathered and its copy issued. -/
def partProg (tbl : Memref sig .scVector .hbm S36x100000 .f32) (out : Memref sig .scVector .hbm S936x16384 .f32)
    (row : Memref sig .scVector .vmem S100000 .f32) (hrow : row.IsWhole) (och : Memref sig .scVector .vmem S8192 .f32) (hoch : och.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32)) :
    Prog (TpuEff nD τ sig (Elt F) Λ₀ (.scVector c s)) PUnit := do
  let v464_1 : Memref sig .scVector .hbm S1x100000 .f32 := tbl.slice (Rect.unit (s := S36x100000) offT S1x100000.size inbT) (fun _ => rfl)
  let v465_1 : Memref sig .scVector .hbm S100000 .f32 := v464_1.squeeze S100000 squeezes_S1x100000_S100000
  Prog.lift (.enqueueDma v465_1 (.here row) (.dma s1.sem) ((View.wordExact_bits rfl).reshape _ _) hrow.wordExact ⟨Or.inl rfl, trivial⟩)
  let v468_1 : Memref sig .scVector .hbm S1x100000 .f32 := tbl.slice (Rect.unit (s := S36x100000) offT S1x100000.size inbT) (fun _ => rfl)
  let v469_1 : Memref sig .scVector .hbm S100000 .f32 := v468_1.squeeze S100000 squeezes_S1x100000_S100000
  Prog.lift (.waitDma2 s1.sem v469_1 row ((View.wordExact_bits rfl).reshape _ _) hrow.wordExact)
  let v456 : BitVec 32 ← la
  let v464_2 : Memref sig .scVector .hbm S1x8192 .f32 := out.slice (Rect.unit (s := S936x16384) offA S1x8192.size inbA) (fun _ => rfl)
  let v465_2 : Memref sig .scVector .hbm S8192 .f32 := v464_2.squeeze S8192 squeezes_S1x8192_S8192
  Prog.lift (.enqueueDma och (.here v465_2) (.dma s2.sem) hoch.wordExact ((View.wordExact_bits rfl).reshape _ _) ⟨Or.inl rfl, trivial⟩)
  let v468_2 : Memref sig .scVector .hbm S1x8192 .f32 := out.slice (Rect.unit (s := S936x16384) offA S1x8192.size inbA) (fun _ => rfl)
  let v469_2 : Memref sig .scVector .hbm S8192 .f32 := v468_2.squeeze S8192 squeezes_S1x8192_S8192
  Prog.lift (.waitDma2 s2.sem och v469_2 hoch.wordExact ((View.wordExact_bits rfl).reshape _ _))
  let v459 : BitVec 32 ← lb
  let v464_3 : Memref sig .scVector .hbm S1x8192 .f32 := out.slice (Rect.unit (s := S936x16384) offB S1x8192.size inbB) (fun _ => rfl)
  let v465_3 : Memref sig .scVector .hbm S8192 .f32 := v464_3.squeeze S8192 squeezes_S1x8192_S8192
  Prog.lift (.enqueueDma och (.here v465_3) (.dma s3.sem) hoch.wordExact ((View.wordExact_bits rfl).reshape _ _) ⟨Or.inl rfl, trivial⟩)
  pure ⟨⟩

/-- The whole trip: the part above, the second output copy's wait, and the loop's carried word. -/
def tripProg (tbl : Memref sig .scVector .hbm S36x100000 .f32) (out : Memref sig .scVector .hbm S936x16384 .f32)
    (row : Memref sig .scVector .vmem S100000 .f32) (hrow : row.IsWhole) (och : Memref sig .scVector .vmem S8192 .f32) (hoch : och.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32)) :
    Prog (TpuEff nD τ sig (Elt F) Λ₀ (.scVector c s)) (BitVec 32) := do
  partProg (F := F) c s tbl out row hrow och hoch s1 s2 s3 offT inbT offA inbA offB inbB la lb
  let v468_3 : Memref sig .scVector .hbm S1x8192 .f32 := out.slice (Rect.unit (s := S936x16384) offB S1x8192.size inbB) (fun _ => rfl)
  let v469_3 : Memref sig .scVector .hbm S8192 .f32 := v468_3.squeeze S8192 squeezes_S1x8192_S8192
  Prog.lift (.waitDma2 s3.sem och v469_3 hoch.wordExact ((View.wordExact_bits rfl).reshape _ _))
  pure 0#32

variable (defs : Defs nD τ sig (Elt F) Λ₀) (d : Dev nD)

/-- The table row an index word selects (a word outside the table is reduced modulo its length). -/
def rowOf (w : BitVec 32) : S100000.Idx := ix1 ⟨w.toNat % 100000, Nat.mod_lt _ (by decide)⟩

/-- What a gather loop is asked to do, as a rule for the loop at the head of a program: from the row scratch at `fR`, the output
    scratch at anything and the loop's own resources `IA` (its index scratch), it leaves the output scratch at the row's
    entries selected by the index words `ia`, everything else as it was. -/
def GatherRule (la : Prog (TpuEff nD τ sig (Elt F) Λ₀ (.scVector c s)) (BitVec 32))
    (row : Memref sig .scVector .vmem S100000 .f32) (och : Memref sig .scVector .vmem S8192 .f32)
    (IA : sProp 𝕄) (ia : S8192.Idx → BitVec 32) : Prop :=
  ∀ {α : Type} (kk : BitVec 32 → Prog (TpuEff nD τ sig (Elt F) Λ₀ (.scVector c s)) α) (Q : α → sProp 𝕄)
    (fR : Buf (Elt F) (row.view.loc (V d c s))) (fO : Buf (Elt F) (och.view.loc (V d c s))),
    iprop(IA ∗ (row.view.loc (V d c s) ↦{fullShare} fR) ∗ (och.view.loc (V d c s) ↦{fullShare} fO)
        ∗ (∀ acc fO', ⌜och.view.read (Elt F) fO' = fun y => row.view.read (Elt F) fR (rowOf (ia y))⌝ -∗ IA
            -∗ (row.view.loc (V d c s) ↦{fullShare} fR) -∗ (och.view.loc (V d c s) ↦{fullShare} fO')
            -∗ wp frame (wpE defs Variants.none (V d c s) none) Set.univ (kk acc) Q))
      ⊢ wp frame (wpE defs Variants.none (V d c s) none) Set.univ (la >>= kk) Q

theorem trip_spec (tbl : Memref sig .scVector .hbm S36x100000 .f32) (htbl : tbl.IsWhole) (out : Memref sig .scVector .hbm S936x16384 .f32) (hout : out.IsWhole)
    (row : Memref sig .scVector .vmem S100000 .f32) (hrow : row.IsWhole) (och : Memref sig .scVector .vmem S8192 .f32) (hoch : och.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32))
    (IA IB : sProp 𝕄) (ia ib : S8192.Idx → BitVec 32)
    (hla : GatherRule (F := F) c s defs d la row och IA ia) (hlb : GatherRule (F := F) c s defs d lb row och IB ib)
    (O : CellTallies nD τ sig (HIx 1)) (W : Waits sig (HIx 1)) (q : PosShare TreeShare)
    (ft : Buf (Elt F) (tbl.view.loc (V d c s))) (fr : Buf (Elt F) (row.view.loc (V d c s)))
    (fo : Buf (Elt F) (och.view.loc (V d c s))) (gA gB : Buf (Elt F) (out.view.loc (V d c s)))
    (W0 : Waits sig (HIx 1)) (hW0 : ∀ p ∈ W, p ∈ W0 ∨ p.2 = none) :
    iprop(Transfers.MayWaits (V d c s) (none : HIx 1) O
        ∗ (tbl.view.loc (V d c s) ↦{q} ft)
        ∗ (row.view.loc (V d c s) ↦{fullShare} fr)
        ∗ (och.view.loc (V d c s) ↦{fullShare} fo)
        ∗ IA ∗ IB
        ∗ ((dstRow out offA inbA).view.loc (V d c s) ↦[(dstRow out offA inbA).view.set]{fullShare} gA)
        ∗ ((dstRow out offB inbB).view.loc (V d c s) ↦[(dstRow out offB inbB).view.set]{fullShare} gB)
        ∗ semVal ((V d c s), SemLoc.dma s1.sem) 0
        ∗ semVal ((V d c s), SemLoc.dma s2.sem) 0
        ∗ semVal ((V d c s), SemLoc.dma s3.sem) 0
        ∗ owes (V d c s) O W)
      ⊢ wp frame (wpE defs Variants.none (V d c s) none) Set.univ (tripProg (F := F) c s tbl out row hrow och hoch s1 s2 s3 offT inbT offA inbA offB inbB la lb)
          fun _ => iprop(Transfers.MayWaits (V d c s) (none : HIx 1) O
        ∗ (tbl.view.loc (V d c s) ↦{q} ft)
        ∗ (∃ fr', row.view.loc (V d c s) ↦{fullShare} fr')
        ∗ (∃ fo', och.view.loc (V d c s) ↦{fullShare} fo')
        ∗ IA ∗ IB
        ∗ (∃ gA', ((dstRow out offA inbA).view.loc (V d c s) ↦[(dstRow out offA inbA).view.set]{fullShare} gA')
              ∗ ⌜(dstRow out offA inbA).view.read (Elt F) gA' = fun y => (srcRow tbl offT inbT).view.read (Elt F) ft (rowOf (ia y))⌝)
        ∗ (∃ gB', ((dstRow out offB inbB).view.loc (V d c s) ↦[(dstRow out offB inbB).view.set]{fullShare} gB')
              ∗ ⌜(dstRow out offB inbB).view.read (Elt F) gB' = fun y => (srcRow tbl offT inbT).view.read (Elt F) ft (rowOf (ib y))⌝)
        ∗ semVal ((V d c s), SemLoc.dma s1.sem) 0
        ∗ semVal ((V d c s), SemLoc.dma s2.sem) 0
        ∗ semVal ((V d c s), SemLoc.dma s3.sem) 0
        ∗ ∃ W', owes (V d c s) O W' ∗ ⌜∀ p ∈ W', p ∈ W0 ∨ p.2 = none⌝) := by
  unfold tripProg partProg
  iintro ⟨Hmw, Ht, Hr, Ho, HIA, HIB, HgA, HgB, Hs1, Hs2, Hs3, HO⟩
  sl_exec
  irw [Prog.bind_assoc]
  iapply (hla _ _ _ _)
  isplitl [HIA]; · iexact HIA
  isplitl [Hr]; · iexact Hr
  isplitl [Ho]; · iexact Ho
  iintro %acc %foA %hfoA HIA Hr Ho
  sl_exec
  irw [Prog.bind_assoc]
  iapply (hlb _ _ _ _)
  isplitl [HIB]; · iexact HIB
  isplitl [Hr]; · iexact Hr
  isplitl [Ho]; · iexact Ho
  iintro %acc2 %foB %hfoB HIB Hr Ho
  sl_exec
  sl_step
  isplitl [Hmw]; · iexact Hmw
  isplitl [Ht]; · iexact Ht
  isplitl [Hr]; · iexists _; iexact Hr
  isplitl [Ho]; · iexists _; iexact Ho
  isplitl [HIA]; · iexact HIA
  isplitl [HIB]; · iexact HIB
  isplitl [HgA]
  · iexists _; isplitl [HgA]
    · iexact HgA
    · ipureintro
      funext y
      have h1 := View.read_writes_cons_emb (dstRow out offA inbA).view gA (Rect.whole S8192) (trip_spec.sl.dma0_1 och foA) [] y
      rw [Rect.emb_whole_apply] at h1
      rw [h1]
      show (och.view.read (Elt F) foA) y = _
      rw [hfoA, View.read_write_univ]
      rfl
  isplitl [HgB]
  · iexists _; isplitl [HgB]
    · iexact HgB
    · ipureintro
      funext y
      have h1 := View.read_writes_cons_emb (dstRow out offB inbB).view gB (Rect.whole S8192) (trip_spec.sl.dma0_2 och foB) [] y
      rw [Rect.emb_whole_apply] at h1
      rw [h1]
      show (och.view.read (Elt F) foB) y = _
      rw [hfoB, View.read_write_univ]
      rfl
  isplitl [Hs1]; · iexact Hs1
  isplitl [Hs2]; · iexact Hs2
  isplitl [Hs3]; · iexact Hs3
  iexists _; isplitl [HO]
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW0 p hp

/-! ## The loop over a field's rows -/

/-- The output array and the two scratch buffers the trip moves data through, as a tile addresses them. -/
abbrev oV : Memref sig .scVector .hbm S936x16384 .f32 := Memref.whole main_v27_scv
abbrev sRow : Memref sig .scVector .vmem S100000 .f32 := Memref.whole cc0_scratch0
abbrev sOch : Memref sig .scVector .vmem S8192 .f32 := Memref.whole cc0_scratch3

omit [FloatOps F] in
theorem dst_set (off : Fin 2 → Nat) (inb : ∀ a, off a + S1x8192.size a ≤ S936x16384.size a) :
    (dstRow oV off inb).view.set = (Rect.unit (s := S936x16384) off S1x8192.size inb).set := by
  show (((View.whole main_v27_scv : View sig .scVector .hbm S936x16384 .f32).slice (Rect.unit (s := S936x16384) off S1x8192.size inb)).reshape S8192
      squeezes_S1x8192_S8192.numel_eq).set = _
  rw [View.set_reshape, View.set_slice_whole]

omit [FloatOps F] in
theorem mem_dst {off : Fin 2 → Nat} {inb : ∀ a, off a + S1x8192.size a ≤ S936x16384.size a} {j : S936x16384.Idx} :
    j ∈ (dstRow oV off inb).view.set ↔ (j 0).val = off 0 ∧ off 1 ≤ (j 1).val ∧ (j 1).val < off 1 + 8192 := by
  rw [dst_set, Rect.mem_set_unit]
  constructor
  · intro h
    have h0 : off 0 ≤ (j 0 : ℕ) ∧ (j 0 : ℕ) < off 0 + 1 := h 0
    have h1 : off 1 ≤ (j 1 : ℕ) ∧ (j 1 : ℕ) < off 1 + 8192 := h 1
    omega
  · intro h a
    match a with
    | 0 => exact (show off 0 ≤ (j 0 : ℕ) ∧ (j 0 : ℕ) < off 0 + 1 from by omega)
    | 1 => exact (show off 1 ≤ (j 1 : ℕ) ∧ (j 1 : ℕ) < off 1 + 8192 from by omega)

omit [FloatOps F] [Facts] in
/-- Gluing one finished row into the tile's rows: `A` and `B` are the two halves of row `base + k`, the new contents agree with
    `G` on them, and elsewhere are the old contents, which were `G` on the rows `[base, base + k)` and `g0` off them. -/
theorem glue_row {α : Type} (Tset A B : Finset S936x16384.Idx) (G g0 g gA gB : S936x16384.Idx → α) (base k : ℕ)
    (hAm : ∀ j, j ∈ A ↔ (j 0).val = base + k ∧ (j 1).val < 8192) (hBm : ∀ j, j ∈ B ↔ (j 0).val = base + k ∧ 8192 ≤ (j 1).val)
    (hgA : ∀ j ∈ A, gA j = G j) (hgB : ∀ j ∈ B, gB j = G j)
    (hg : ∀ j ∈ Tset, g j = if base ≤ (j 0).val ∧ (j 0).val < base + k then G j else g0 j) :
    ∀ j ∈ Tset, A.piecewise gA (B.piecewise gB g) j = if base ≤ (j 0).val ∧ (j 0).val < base + (k + 1) then G j else g0 j := by
  intro j hjT
  by_cases hja : j ∈ A
  · rw [Finset.piecewise_eq_of_mem _ _ _ hja, hgA j hja, if_pos (by have := (hAm j).mp hja; omega)]
  · rw [Finset.piecewise_eq_of_notMem _ _ _ hja]
    by_cases hjb : j ∈ B
    · rw [Finset.piecewise_eq_of_mem _ _ _ hjb, hgB j hjb, if_pos (by have := (hBm j).mp hjb; omega)]
    · rw [Finset.piecewise_eq_of_notMem _ _ _ hjb, hg j hjT]
      have hne : (j 0).val ≠ base + k := by
        intro hrow
        by_cases hc : (j 1).val < 8192
        · exact hja ((hAm j).mpr ⟨hrow, hc⟩)
        · exact hjb ((hBm j).mpr ⟨hrow, by omega⟩)
      by_cases hc : base ≤ (j 0).val ∧ (j 0).val < base + k
      · rw [if_pos hc, if_pos (by omega)]
      · rw [if_neg hc, if_neg (by omega)]

omit [Facts] in
/-- Two contents that read the same through a view agree on the view's elements. -/
theorem eq_on_set_of_read_eq {sp : Space} {sh : Shape} {e : EltTy} (v : View sig .scVector sp sh e) (f g : v.ty.Contents (Elt F))
    (h : v.read (Elt F) f = v.read (Elt F) g) : ∀ j ∈ v.set, f j = g j := by
  intro j hj
  obtain ⟨y, -, rfl⟩ := Finset.mem_map.mp hj
  have e := congrFun h y
  rw [View.read_apply, View.read_apply] at e
  exact (cast_inj _).mp e

/-- What the loop over the rows `base, base + 1, …` of the output array keeps from trip to trip. Before trip `k`: the table
    whole at a read share, the two scratch buffers at some contents, the gather loops' own resources, the three semaphores
    at zero, what the tile owes, and the tile's rows `[lo, hi)` of the output array at contents that agree with `G` on
    every row below `base + k`. -/
def rowsInv (tbl : Memref sig .scVector .hbm S36x100000 .f32) (s1 s2 s3 : DmaSems sig S_) (IA IB : sProp 𝕄)
    (O : CellTallies nD τ sig (HIx 1)) (W0 : Waits sig (HIx 1)) (q : PosShare TreeShare) (ft : Buf (Elt F) (tbl.view.loc (V d c s)))
    (Tset : Finset S936x16384.Idx) (G g0 : Buf (Elt F) (oV.view.loc (V d c s))) (base : ℕ) (k : ℕ) (_ : BitVec 32) : sProp 𝕄 :=
  iprop(Transfers.MayWaits (V d c s) (none : HIx 1) O
    ∗ (tbl.view.loc (V d c s) ↦{q} ft)
    ∗ (∃ fr, sRow.view.loc (V d c s) ↦{fullShare} fr)
    ∗ (∃ fo, sOch.view.loc (V d c s) ↦{fullShare} fo)
    ∗ IA ∗ IB
    ∗ (∃ g, (oV.view.loc (V d c s) ↦[Tset]{fullShare} g) ∗ ⌜∀ j ∈ Tset, g j = if base ≤ (j 0).val ∧ (j 0).val < base + k then G j else g0 j⌝)
    ∗ semVal ((V d c s), SemLoc.dma s1.sem) 0
    ∗ semVal ((V d c s), SemLoc.dma s2.sem) 0
    ∗ semVal ((V d c s), SemLoc.dma s3.sem) 0
    ∗ ∃ W', owes (V d c s) O W' ∗ ⌜∀ p ∈ W', p ∈ W0 ∨ p.2 = none⌝)

set_option maxHeartbeats 1000000 in
theorem rows_step (tbl : Memref sig .scVector .hbm S36x100000 .f32) (htbl : tbl.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32))
    (IA IB : sProp 𝕄) (ia ib : S8192.Idx → BitVec 32)
    (hla : GatherRule (F := F) c s defs d la sRow sOch IA ia) (hlb : GatherRule (F := F) c s defs d lb sRow sOch IB ib)
    (O : CellTallies nD τ sig (HIx 1)) (W0 : Waits sig (HIx 1)) (q : PosShare TreeShare)
    (ft : Buf (Elt F) (tbl.view.loc (V d c s)))
    (Tset : Finset S936x16384.Idx) (lo hi : ℕ) (hT : ∀ j, j ∈ Tset ↔ lo ≤ (j 0).val ∧ (j 0).val < hi)
    (G g0 : Buf (Elt F) (oV.view.loc (V d c s))) (base k : ℕ) (hlo : lo ≤ base + k) (hhi : base + k < hi)
    (hoffA : offA = ![base + k, 0]) (hoffB : offB = ![base + k, 8192])
    (hGA : (dstRow oV offA inbA).view.read (Elt F) G = fun y => (srcRow tbl offT inbT).view.read (Elt F) ft (rowOf (ia y)))
    (hGB : (dstRow oV offB inbB).view.read (Elt F) G = fun y => (srcRow tbl offT inbT).view.read (Elt F) ft (rowOf (ib y)))
    (acc : BitVec 32) :
    rowsInv (F := F) c s d tbl s1 s2 s3 IA IB O W0 q ft Tset G g0 base k acc
      ⊢ wp frame (wpE defs Variants.none (V d c s) none) Set.univ
          (tripProg (F := F) c s tbl oV sRow (Memref.isWhole_whole _) sOch (Memref.isWhole_whole _) s1 s2 s3 offT inbT offA inbA offB inbB la lb)
          (rowsInv (F := F) c s d tbl s1 s2 s3 IA IB O W0 q ft Tset G g0 base (k + 1)) := by
  have hA : (dstRow oV offA inbA).view.set ⊆ Tset := by
    intro j hj
    have := mem_dst.mp hj
    rw [hoffA] at this
    exact (hT j).mpr (by have h0 : (![base + k, 0] : Fin 2 → ℕ) 0 = base + k := rfl; omega)
  have hB : (dstRow oV offB inbB).view.set ⊆ Tset \ (dstRow oV offA inbA).view.set := by
    intro j hj
    have hb := mem_dst.mp hj
    rw [hoffB] at hb
    have h0 : (![base + k, 8192] : Fin 2 → ℕ) 0 = base + k := rfl
    have h1 : (![base + k, 8192] : Fin 2 → ℕ) 1 = 8192 := rfl
    refine Finset.mem_sdiff.mpr ⟨(hT j).mpr (by omega), fun hja => ?_⟩
    have ha := mem_dst.mp hja
    rw [hoffA] at ha
    have h1' : (![base + k, 0] : Fin 2 → ℕ) 1 = 0 := rfl
    omega
  unfold rowsInv
  iintro ⟨Hmw, Ht, ⟨%fr, Hr⟩, ⟨%fo, Ho⟩, HIA, HIB, ⟨%g, Hg, %hg⟩, Hs1, Hs2, Hs3, %W, HO, %hW⟩
  ihave Hg' := (pointsTo_split_subset hA).1 $$ Hg
  icases Hg' with ⟨HgA, Hrest⟩
  ihave Hrest' := (pointsTo_split_subset hB).1 $$ Hrest
  icases Hrest' with ⟨HgB, Hrest⟩
  iapply (wp_wand_r frame (wpE defs Variants.none (V d c s) none) Set.univ)
  isplitl [Hmw Ht Hr Ho HIA HIB HgA HgB Hs1 Hs2 Hs3 HO]
  · iapply (trip_spec (F := F) c s defs d tbl htbl oV (Memref.isWhole_whole _) sRow (Memref.isWhole_whole _) sOch (Memref.isWhole_whole _) s1 s2 s3
      offT inbT offA inbA offB inbB la lb IA IB ia ib hla hlb O W q ft fr fo g g W0 hW)
    isplitl [Hmw]; · iexact Hmw
    isplitl [Ht]; · iexact Ht
    isplitl [Hr]; · iexact Hr
    isplitl [Ho]; · iexact Ho
    isplitl [HIA]; · iexact HIA
    isplitl [HIB]; · iexact HIB
    isplitl [HgA]; · iexact HgA
    isplitl [HgB]; · iexact HgB
    isplitl [Hs1]; · iexact Hs1
    isplitl [Hs2]; · iexact Hs2
    isplitl [Hs3]; · iexact Hs3
    iexact HO
  iintro %acc' ⟨Hmw, Ht, Hr, Ho, HIA, HIB, ⟨%gA', HgA, %hgA⟩, ⟨%gB', HgB, %hgB⟩, Hs1, Hs2, Hs3, HO⟩
  isplitl [Hmw]; · iexact Hmw
  isplitl [Ht]; · iexact Ht
  isplitl [Hr]; · iexact Hr
  isplitl [Ho]; · iexact Ho
  isplitl [HIA]; · iexact HIA
  isplitl [HIB]; · iexact HIB
  isplitl [HgA HgB Hrest]
  · iexists ((dstRow oV offA inbA).view.set.piecewise gA' ((dstRow oV offB inbB).view.set.piecewise gB' g))
    isplitl [HgA HgB Hrest]
    · iapply (pointsTo_join_subset (ℓ := oV.view.loc (V d c s)) (q := fullShare) hA)
      isplitl [HgA]; · iexact HgA
      iapply (pointsTo_join_subset (ℓ := oV.view.loc (V d c s)) (q := fullShare) hB)
      isplitl [HgB]; · iexact HgB
      iexact Hrest
    ipureintro
    refine glue_row Tset (dstRow oV offA inbA).view.set (dstRow oV offB inbB).view.set G g0 g gA' gB' base k (fun j => ?_) (fun j => ?_)
      (eq_on_set_of_read_eq (F := F) (dstRow oV offA inbA).view gA' G (hgA.trans hGA.symm))
      (eq_on_set_of_read_eq (F := F) (dstRow oV offB inbB).view gB' G (hgB.trans hGB.symm)) hg
    · rw [mem_dst, hoffA]
      show _ = base + k ∧ 0 ≤ _ ∧ _ < 0 + 8192 ↔ _
      omega
    · rw [mem_dst, hoffB]
      have hlt : (j 1).val < 8192 + 8192 := (j 1).isLt
      show _ = base + k ∧ 8192 ≤ _ ∧ _ < 8192 + 8192 ↔ _
      omega
  isplitl [Hs1]; · iexact Hs1
  isplitl [Hs2]; · iexact Hs2
  isplitl [Hs3]; · iexact Hs3
  iexact HO

/-- The loop over the rows of one field, as a rule for the loop at the head of a program: every trip is the trip above at
    its own offsets, the offsets are row `base + k` of the output array and its two halves, and `G` at that row is the table
    row the trip copies, gathered at the index words. After the loop the rows `[base, base + trips)` hold `G`. -/
theorem rows_loop (tbl : Memref sig .scVector .hbm S36x100000 .f32) (htbl : tbl.IsWhole)
    (s1 s2 s3 : DmaSems sig S_) (l : Scf.Loop 32) (hok : l.OK) (init : BitVec 32)
    (body : Fin l.trips → BitVec 32 → Prog (TpuEff nD τ sig (Elt F) Λ₀ (.scVector c s)) (BitVec 32))
    (offT : Fin l.trips → Fin 2 → Nat) (inbT : ∀ k a, offT k a + S1x100000.size a ≤ S36x100000.size a)
    (offA : Fin l.trips → Fin 2 → Nat) (inbA : ∀ k a, offA k a + S1x8192.size a ≤ S936x16384.size a)
    (offB : Fin l.trips → Fin 2 → Nat) (inbB : ∀ k a, offB k a + S1x8192.size a ≤ S936x16384.size a)
    (la lb : Fin l.trips → Prog (TpuEff nD τ sig (Elt F) Λ₀ (.scVector c s)) (BitVec 32))
    (hbody : ∀ k acc, body k acc = tripProg (F := F) c s tbl oV sRow (Memref.isWhole_whole _) sOch (Memref.isWhole_whole _) s1 s2 s3
        (offT k) (inbT k) (offA k) (inbA k) (offB k) (inbB k) (la k) (lb k))
    (IA IB : sProp 𝕄) (ia ib : S8192.Idx → BitVec 32)
    (hla : ∀ k, GatherRule (F := F) c s defs d (la k) sRow sOch IA ia) (hlb : ∀ k, GatherRule (F := F) c s defs d (lb k) sRow sOch IB ib)
    (O : CellTallies nD τ sig (HIx 1)) (W0 : Waits sig (HIx 1)) (q : PosShare TreeShare)
    (ft : Buf (Elt F) (tbl.view.loc (V d c s)))
    (Tset : Finset S936x16384.Idx) (lo hi : ℕ) (hT : ∀ j, j ∈ Tset ↔ lo ≤ (j 0).val ∧ (j 0).val < hi)
    (G g0 : Buf (Elt F) (oV.view.loc (V d c s))) (base : ℕ) (hlo : 0 < l.trips → lo ≤ base) (hhi : 0 < l.trips → base + l.trips ≤ hi)
    (hoffA : ∀ k : Fin l.trips, offA k = ![base + k.val, 0]) (hoffB : ∀ k : Fin l.trips, offB k = ![base + k.val, 8192])
    (hGA : ∀ k, (dstRow oV (offA k) (inbA k)).view.read (Elt F) G = fun y => (srcRow tbl (offT k) (inbT k)).view.read (Elt F) ft (rowOf (ia y)))
    (hGB : ∀ k, (dstRow oV (offB k) (inbB k)).view.read (Elt F) G = fun y => (srcRow tbl (offT k) (inbT k)).view.read (Elt F) ft (rowOf (ib y)))
    {α : Type} (kk : BitVec 32 → Prog (TpuEff nD τ sig (Elt F) Λ₀ (.scVector c s)) α) (Q : α → sProp 𝕄) :
    iprop(rowsInv (F := F) c s d tbl s1 s2 s3 IA IB O W0 q ft Tset G g0 base 0 init
        ∗ (∀ acc, rowsInv (F := F) c s d tbl s1 s2 s3 IA IB O W0 q ft Tset G g0 base l.trips acc
            -∗ wp frame (wpE defs Variants.none (V d c s) none) Set.univ (kk acc) Q))
      ⊢ wp frame (wpE defs Variants.none (V d c s) none) Set.univ (Scf.Loop.for l hok init body >>= kk) Q := by
  refine BI.wand_elim (Scf.wp_for_bind frame (wpE defs Variants.none (V d c s) none) Set.univ l.lb l.ub l.st hok init body
    (rowsInv (F := F) c s d tbl s1 s2 s3 IA IB O W0 q ft Tset G g0 base) (fun k acc => ?_))
  rw [hbody k acc]
  have hk : k.val < l.trips := k.isLt
  have hlo' := hlo (by omega)
  have hhi' := hhi (by omega)
  exact rows_step (F := F) c s defs d tbl htbl s1 s2 s3 (offT k) (inbT k) (offA k) (inbA k) (offB k) (inbB k) (la k) (lb k) IA IB ia ib (hla k) (hlb k)
    O W0 q ft Tset lo hi hT G g0 base k.val (by omega) (by omega) (hoffA k) (hoffB k) (hGA k) (hGB k) acc

end Cert.Proof.BodyRow
-- ==== Proof.BodyGather.lean ====
import proofs.«204037_g66941360275737_cont_sun_c4_657_24_alg».proof.KernelIdeal.P01
import proofs.«204037_g66941360275737_cont_sun_c4_657_24_alg».proof.Proof.Spec
import Idealize.ShloMosaic.Lib.SparseCore.Ops
import Idealize.ShloMosaic.Lib.SparseCore.Cells
import Idealize.ShloMosaic.Lib.Tactic

/-!
# The gather loops of one tile

Every field's two inner loops have one shape: 32 trips, each trip 16 steps; step `u` of trip `k`
reads the 16 index words at `256 k + 16 u` of an index buffer, gathers the row buffer's elements at
those indices, and stores the 16 gathered words at `256 k + 16 u` of the output buffer. After trip
`k` the output buffer's first `256 (k + 1)` elements are `j ↦ R (I j)`; after the loop, all of them.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Tactic

/-! ## The value -/

/-- The row an index word names (in range under the precondition). -/
def rowOf (w : BitVec 32) : S100000.Idx := Shape.ofLane (d := ![100000]) (Cert.Spec.rowIx w)

/-- What the gather leaves: element `y` is the row's element at the index the word `I y` names. -/
def gat {α : Type} (R : S100000.Idx → α) (I : S8192.Idx → BitVec 32) : S8192.Idx → α := fun y => R (rowOf (I y))

theorem rowOf_val {w : BitVec 32} (h : w.toNat < 100000) (a : Fin 1) : ((rowOf w) a : Nat) = w.toNat := by
  exact Cert.Spec.rowIx_val_of_lt h

/-- The row an index word names, as the rank-one index of its reduced value. -/
theorem rowOf_eq_ix1 (w : BitVec 32) : rowOf w = Idealize.ShloMosaic.ValueIdx.ix1 (Cert.Spec.rowIx w) := by
  funext a; match a with | ⟨0, _⟩ => rfl

/-- The gather, with the named row spelt as a rank-one index. -/
theorem gat_eq {α : Type} (R : S100000.Idx → α) (I : S8192.Idx → BitVec 32) :
    gat R I = fun y => R (Idealize.ShloMosaic.ValueIdx.ix1 (Cert.Spec.rowIx (I y))) := by
  funext y; unfold gat; rw [rowOf_eq_ix1]

/-! ## Offsets -/

/-- The offset of every access of trip `k`: `256 k + c`, as the program computes it. -/
def goff (k : Fin 32) (c : BitVec 32) : Fin 1 → Nat :=
  ![(Scalar.indexCast (Scalar.addi (Scalar.muli (Scf.iv 0#32 1#32 k) 256#32) c)).toNat]

theorem goff_eq : ∀ (k : Fin 32) (u : Fin 16), goff k (BitVec.ofNat 32 (16 * u.val)) = ![256 * k.val + 16 * u.val] := by decide +kernel

theorem goff_inb (k : Fin 32) (u : Fin 16) : ∀ a, goff k (BitVec.ofNat 32 (16 * u.val)) a + S16.size a ≤ S8192.size a := by
  rw [goff_eq]; intro a; have := k.isLt; have := u.isLt
  simp [S16, S8192, Shape.size]; omega

theorem h16 : 0 < S16.numel := by decide
theorem h100000 : 0 < S100000.numel := by decide

/-- The side condition each step assumes of the 16 index words it read: they name rows. -/
def gchk (v : IVec S16 32) : Prop := ∀ a x, ((![v] : Fin 1 → IVec S16 32) a x).toNat < S100000.size a

/-! ## The invariant's pure part -/

section Pure

variable {F : FTy → Type} [FloatOps F]

/-- The first `n` elements the output view reads hold `G`. -/
def Good (ochV : View sig .scVector .vmem S8192 .f32) (G : S8192.Idx → Elt F .f32) (n : Nat) (f : ochV.ty.Contents (Elt F)) : Prop :=
  ∀ y : S8192.Idx, (y 0 : Nat) < n → ochV.read (Elt F) f y = G y

theorem Good.mono {ochV : View sig .scVector .vmem S8192 .f32} {G : S8192.Idx → Elt F .f32} {n m : Nat} {f : ochV.ty.Contents (Elt F)}
    (h : Good ochV G n f) (hm : m ≤ n) : Good ochV G m f := fun y hy => h y (by omega)

theorem Good.zero (ochV : View sig .scVector .vmem S8192 .f32) (G : S8192.Idx → Elt F .f32) (f : ochV.ty.Contents (Elt F)) : Good ochV G 0 f :=
  fun y hy => absurd hy (Nat.not_lt_zero _)

theorem Good.all {ochV : View sig .scVector .vmem S8192 .f32} {G : S8192.Idx → Elt F .f32} {f : ochV.ty.Contents (Elt F)}
    (h : Good ochV G 8192 f) : ochV.read (Elt F) f = G := funext fun y => h y (y 0).isLt

/-- The check a step assumes holds of words that name rows. -/
theorem gchk_of (idxV : View sig .scVector .vmem S8192 .i32) (fI : idxV.ty.Contents (Elt F)) (r : LoadRect S8192) (hr : r.shape = S16)
    (hI : ∀ y, (idxV.read (Elt F) fI y).toNat < 100000) (v : IVec S16 32)
    (hv : ∀ x, ∃ y, v x = idxV.read (Elt F) fI y) : gchk v := by
  intro a x
  obtain rfl := Fin.fin_one_eq_zero a
  obtain ⟨y, hy⟩ := hv x
  show (v x).toNat < 100000
  rw [hy]; exact hI y

/-- One step's store extends the prefix that holds the gather by the step's 16 elements. -/
theorem good_step (ochV : View sig .scVector .vmem S8192 .f32) (idxV : View sig .scVector .vmem S8192 .i32)
    (R : S100000.Idx → Elt F .f32) (fI : idxV.ty.Contents (Elt F)) (f : ochV.ty.Contents (Elt F)) (n : Nat)
    (inbA inbB : ∀ a, (![n] : Fin 1 → Nat) a + S16.size a ≤ S8192.size a)
    (hI : ∀ y, (idxV.read (Elt F) fI y).toNat < 100000)
    (h : ∀ a x, ((![idxV.readAt (Elt F) (Rect.unit (s := S8192) ![n] S16.size inbA).toLoadRect fI] : Fin 1 → IVec S16 32) a x).toNat < S100000.size a)
    (hf : Good ochV (gat R (idxV.read (Elt F) fI)) n f) :
    Good ochV (gat R (idxV.read (Elt F) fI)) (n + 16)
      ((ochV.slice (Rect.unit (s := S8192) ![n] S16.size inbB)).write (Elt F) f
        (loadIdx R ![idxV.readAt (Elt F) (Rect.unit (s := S8192) ![n] S16.size inbA).toLoadRect fI] h) Finset.univ) := by
  intro y hy
  by_cases hlt : (y 0 : Nat) < n
  · rw [View.read_slice_write_of_not_mem]
    · exact hf y hlt
    · intro hm
      obtain ⟨x, -, hx⟩ := Finset.mem_map.mp hm
      have h0 := congrArg (fun z : S8192.Idx => (z 0 : Nat)) hx
      simp only [Rect.emb_apply, Rect.off_unit, Rect.stride_unit] at h0
      simp at h0; omega
  · have hx0 : (y 0 : Nat) - n < 16 := by omega
    have hyx : y = (Rect.unit (s := S8192) ![n] S16.size inbB).emb (Shape.ofLane (d := ![16]) ⟨(y 0 : Nat) - n, hx0⟩) := by
      funext a; obtain rfl := Fin.fin_one_eq_zero a; apply Fin.ext
      simp only [Rect.emb_apply, Rect.off_unit, Rect.stride_unit]
      simp [Shape.ofLane]; omega
    rw [hyx, View.read_slice_write_emb _ _ _ (Finset.mem_univ _)]
    show R _ = R _
    congr 1; funext a; apply Fin.ext
    rw [rowOf_val (hI _)]
    obtain rfl := Fin.fin_one_eq_zero a
    rfl

end Pure

/-! ## One step, one trip -/

section Prog

variable {F : FTy → Type} [FloatOps F] {Λ : Labels} {sc : Fin τ.nSC} {sub : Fin τ.nSub}

/-- One step ahead of a continuation: the 16 index words at `offA`, their check, the gather out of the row
    buffer, and the store of the gathered words at `offB` of the output buffer (a load of the same words precedes
    the store, as the program has it). -/
def gStep {α : Type} (idxM : Memref sig .scVector .vmem S8192 .i32) (rowM : Memref sig .scVector .vmem S100000 .f32)
    (ochM : Memref sig .scVector .vmem S8192 .f32) (offA offB : Fin 1 → Nat)
    (inbA : ∀ a, offA a + S16.size a ≤ S8192.size a) (inbB : ∀ a, offB a + S16.size a ≤ S8192.size a)
    (dec : ∀ v, Decidable (gchk v)) (k : Prog (TpuEff nD τ sig (Elt F) Λ (.scVector sc sub)) α) :
    Prog (TpuEff nD τ sig (Elt F) Λ (.scVector sc sub)) α :=
  .op (.load idxM (Rect.unit (s := S8192) offA S16.size inbA).toLoadRect (View.loadsAt_vmem h16)) fun (v : Vec F S16 .i32) =>
  .op (.assume (gchk v) (dec v)) fun hw =>
  SparseCore.vectorLoadIdx rowM ![v] hw.down (View.loads_vmem h100000) >>= fun (g : Vec F S16 .f32) =>
  .op (.load ochM (Rect.unit (s := S8192) offB S16.size inbB).toLoadRect (View.loadsAt_vmem h16)) fun (_ : Vec F S16 .f32) =>
  .op (.store ochM (Rect.unit (s := S8192) offB S16.size inbB) g Finset.univ (View.stores_vmem_bits_univ h16 rfl) (.inl rfl)) fun _ => k

end Prog

/-! ## The step's rule -/

section Step

variable {F : FTy → Type} [FloatOps F]
variable {Ix : Type} [DecidableEq Ix] {Name : Type} [DecidableEq Name] {U : Type} [URA U] {Lvl : Type} [Preorder Lvl] {Λ : Labels}
variable {defs : Defs nD τ sig (Elt F) Λ} (𝒱 : Variants) (bd : Option 𝒱.V) (E : Set Name)
variable (d : Dev nD) (sc : Fin τ.nSC) (sub : Fin τ.nSub)

local notation "𝕄" => MT nD τ sig Ix (Elt F) Name U Lvl
local notation "thr" => SparseCore.V (nD := nD) (τ := τ) d sc sub

/-- A step at offset `n` of both buffers, from the prefix `n` to the prefix `n + 16`; the index and row buffers
    are read only. -/
theorem gStep_wp {α : Type} {Q : α → sProp 𝕄}
    (idxM : Memref sig .scVector .vmem S8192 .i32) (rowM : Memref sig .scVector .vmem S100000 .f32) (ochM : Memref sig .scVector .vmem S8192 .f32)
    (offA offB : Fin 1 → Nat) (inbA : ∀ a, offA a + S16.size a ≤ S8192.size a) (inbB : ∀ a, offB a + S16.size a ≤ S8192.size a)
    (dec : ∀ v, Decidable (gchk v)) (k : Prog (TpuEff nD τ sig (Elt F) Λ (.scVector sc sub)) α)
    (n : Nat) (hA : offA = ![n]) (hB : offB = ![n]) (qi qr : PosShare TreeShare)
    (fI : Buf (Elt F) (idxM.view.loc thr)) (fR : Buf (Elt F) ((rowM.access (.whole S100000)).loc thr)) (f : Buf (Elt F) (ochM.view.loc thr))
    (hI : ∀ y, (idxM.view.read (Elt F) fI y).toNat < 100000)
    (hf : Good ochM.view (gat ((rowM.access (.whole S100000)).read (Elt F) fR) (idxM.view.read (Elt F) fI)) n f) :
    iprop((idxM.view.loc thr ↦{qi} fI) ∗ ((rowM.access (.whole S100000)).loc thr ↦{qr} fR) ∗ (ochM.view.loc thr ↦{fullShare} f)
        ∗ (∀ f', ⌜Good ochM.view (gat ((rowM.access (.whole S100000)).read (Elt F) fR) (idxM.view.read (Elt F) fI)) (n + 16) f'⌝
            -∗ (idxM.view.loc thr ↦{qi} fI) -∗ ((rowM.access (.whole S100000)).loc thr ↦{qr} fR) -∗ (ochM.view.loc thr ↦{fullShare} f')
            -∗ wp frame (wpE defs 𝒱 thr bd) E k Q))
      ⊢ wp frame (wpE defs 𝒱 thr bd) E (gStep idxM rowM ochM offA offB inbA inbB dec k) Q := by
  subst hA hB
  unfold gStep
  iintro ⟨HI, HR, HO, Hk⟩
  iapply (wp_load 𝒱 thr bd E (m := idxM) (S := Finset.univ) (Finset.subset_univ _)) $$ HI; iintro HI
  have hchk : gchk (idxM.view.readAt (Elt F) (Rect.unit (s := S8192) ![n] S16.size inbA).toLoadRect fI) := by
    intro a x
    obtain rfl := Fin.fin_one_eq_zero a
    exact hI _
  rw [wp_assume_of _ _ _ _ hchk]
  iapply (SparseCore.wp_vectorLoadIdx 𝒱 thr bd E (base := rowM) (S := Finset.univ) (q := qr) (Finset.subset_univ _)) $$ HR; iintro HR
  iapply (wp_load 𝒱 thr bd E (m := ochM) (S := Finset.univ) (Finset.subset_univ _)) $$ HO; iintro HO
  iapply (wp_store 𝒱 thr bd E (m := ochM) (r := Rect.unit (s := S8192) ![n] S16.size inbB) (Mk := Finset.univ) (S := Finset.univ) (Finset.subset_univ _)) $$ HO; iintro HO
  have hg := good_step ochM.view idxM.view ((rowM.access (.whole S100000)).read (Elt F) fR) fI f n inbA inbB hI hchk hf
  ispecialize Hk $$ %_ %hg HI HR HO
  iexact Hk

end Step

/-! ## One trip: the 16 steps at `256 k + 16 u` -/

section Trip

variable {F : FTy → Type} [FloatOps F] {Λ : Labels} {sc : Fin τ.nSC} {sub : Fin τ.nSub}

/-- Trip `k`: step `u` at offset `256 k + 16 u` of the index and output buffers, `u = 0 … 15`; the carried word
    `r` is returned. -/
def gTrip (idxM : Memref sig .scVector .vmem S8192 .i32) (rowM : Memref sig .scVector .vmem S100000 .f32)
    (ochM : Memref sig .scVector .vmem S8192 .f32) (k : Fin 32) (d0 d1 d2 d3 d4 d5 d6 d7 d8 d9 d10 d11 d12 d13 d14 d15 : ∀ v, Decidable (gchk v)) (r : BitVec 32) :
    Prog (TpuEff nD τ sig (Elt F) Λ (.scVector sc sub)) (BitVec 32) :=
  gStep idxM rowM ochM (goff k 0#32) (goff k 0#32) (goff_inb k 0) (goff_inb k 0) d0 <|
  gStep idxM rowM ochM (goff k 16#32) (goff k 16#32) (goff_inb k 1) (goff_inb k 1) d1 <|
  gStep idxM rowM ochM (goff k 32#32) (goff k 32#32) (goff_inb k 2) (goff_inb k 2) d2 <|
  gStep idxM rowM ochM (goff k 48#32) (goff k 48#32) (goff_inb k 3) (goff_inb k 3) d3 <|
  gStep idxM rowM ochM (goff k 64#32) (goff k 64#32) (goff_inb k 4) (goff_inb k 4) d4 <|
  gStep idxM rowM ochM (goff k 80#32) (goff k 80#32) (goff_inb k 5) (goff_inb k 5) d5 <|
  gStep idxM rowM ochM (goff k 96#32) (goff k 96#32) (goff_inb k 6) (goff_inb k 6) d6 <|
  gStep idxM rowM ochM (goff k 112#32) (goff k 112#32) (goff_inb k 7) (goff_inb k 7) d7 <|
  gStep idxM rowM ochM (goff k 128#32) (goff k 128#32) (goff_inb k 8) (goff_inb k 8) d8 <|
  gStep idxM rowM ochM (goff k 144#32) (goff k 144#32) (goff_inb k 9) (goff_inb k 9) d9 <|
  gStep idxM rowM ochM (goff k 160#32) (goff k 160#32) (goff_inb k 10) (goff_inb k 10) d10 <|
  gStep idxM rowM ochM (goff k 176#32) (goff k 176#32) (goff_inb k 11) (goff_inb k 11) d11 <|
  gStep idxM rowM ochM (goff k 192#32) (goff k 192#32) (goff_inb k 12) (goff_inb k 12) d12 <|
  gStep idxM rowM ochM (goff k 208#32) (goff k 208#32) (goff_inb k 13) (goff_inb k 13) d13 <|
  gStep idxM rowM ochM (goff k 224#32) (goff k 224#32) (goff_inb k 14) (goff_inb k 14) d14 <|
  gStep idxM rowM ochM (goff k 240#32) (goff k 240#32) (goff_inb k 15) (goff_inb k 15) d15 <|
  .ret r

end Trip

/-! ## The trip's and the loop's rules -/

section Loop

variable {F : FTy → Type} [FloatOps F]
variable {Ix : Type} [DecidableEq Ix] {Name : Type} [DecidableEq Name] {U : Type} [URA U] {Lvl : Type} [Preorder Lvl] {Λ : Labels}
variable {defs : Defs nD τ sig (Elt F) Λ} (𝒱 : Variants) (bd : Option 𝒱.V) (E : Set Name)
variable (d : Dev nD) (sc : Fin τ.nSC) (sub : Fin τ.nSub)

local notation "𝕄" => MT nD τ sig Ix (Elt F) Name U Lvl
local notation "thr" => SparseCore.V (nD := nD) (τ := τ) d sc sub

theorem goff_eqN (k : Fin 32) (u : Nat) (hu : u < 16) : goff k (BitVec.ofNat 32 (16 * u)) = ![256 * k.val + 16 * u] :=
  goff_eq k ⟨u, hu⟩

/-- Before trip `k`: the index and row buffers at their contents, the output buffer's first `256 k` elements the
    gather (the carried word is not constrained). -/
def inv (idxM : Memref sig .scVector .vmem S8192 .i32) (rowM : Memref sig .scVector .vmem S100000 .f32) (ochM : Memref sig .scVector .vmem S8192 .f32)
    (qi qr : PosShare TreeShare) (fI : Buf (Elt F) (idxM.view.loc thr)) (fR : Buf (Elt F) ((rowM.access (.whole S100000)).loc thr))
    (k : Nat) (_ : BitVec 32) : sProp 𝕄 :=
  iprop(∃ f : Buf (Elt F) (ochM.view.loc thr), (idxM.view.loc thr ↦{qi} fI) ∗ ((rowM.access (.whole S100000)).loc thr ↦{qr} fR) ∗ (ochM.view.loc thr ↦{fullShare} f)
    ∗ ⌜Good ochM.view (gat ((rowM.access (.whole S100000)).read (Elt F) fR) (idxM.view.read (Elt F) fI)) (256 * k) f⌝)

/-- One trip takes the invariant at `k` to the invariant at `k + 1`. -/
theorem gTrip_wp (idxM : Memref sig .scVector .vmem S8192 .i32) (rowM : Memref sig .scVector .vmem S100000 .f32) (ochM : Memref sig .scVector .vmem S8192 .f32)
    (k : Fin 32) (d0 d1 d2 d3 d4 d5 d6 d7 d8 d9 d10 d11 d12 d13 d14 d15 : ∀ v, Decidable (gchk v)) (r acc : BitVec 32) (qi qr : PosShare TreeShare)
    (fI : Buf (Elt F) (idxM.view.loc thr)) (fR : Buf (Elt F) ((rowM.access (.whole S100000)).loc thr))
    (hI : ∀ y, (idxM.view.read (Elt F) fI y).toNat < 100000) :
    inv (Ix := Ix) (Name := Name) (U := U) (Lvl := Lvl) d sc sub idxM rowM ochM qi qr fI fR k.val acc
      ⊢ wp frame (wpE defs 𝒱 thr bd) E (gTrip (Λ := Λ) idxM rowM ochM k d0 d1 d2 d3 d4 d5 d6 d7 d8 d9 d10 d11 d12 d13 d14 d15 r)
          (inv (Ix := Ix) (Name := Name) (U := U) (Lvl := Lvl) d sc sub idxM rowM ochM qi qr fI fR (k.val + 1)) := by
  unfold inv gTrip
  iintro ⟨%f, HI, HR, HO, %hf⟩
  iapply (gStep_wp 𝒱 bd E d sc sub idxM rowM ochM _ _ _ _ d0 _ _ (goff_eqN k 0 (by decide)) (goff_eqN k 0 (by decide)) qi qr fI fR _ hI (hf.mono (by omega)))
  isplitl [HI]; · iexact HI
  isplitl [HR]; · iexact HR
  isplitl [HO]; · iexact HO
  iintro %f0 %hf HI HR HO
  iapply (gStep_wp 𝒱 bd E d sc sub idxM rowM ochM _ _ _ _ d1 _ _ (goff_eqN k 1 (by decide)) (goff_eqN k 1 (by decide)) qi qr fI fR _ hI (hf.mono (by omega)))
  isplitl [HI]; · iexact HI
  isplitl [HR]; · iexact HR
  isplitl [HO]; · iexact HO
  iintro %f1 %hf HI HR HO
  iapply (gStep_wp 𝒱 bd E d sc sub idxM rowM ochM _ _ _ _ d2 _ _ (goff_eqN k 2 (by decide)) (goff_eqN k 2 (by decide)) qi qr fI fR _ hI (hf.mono (by omega)))
  isplitl [HI]; · iexact HI
  isplitl [HR]; · iexact HR
  isplitl [HO]; · iexact HO
  iintro %f2 %hf HI HR HO
  iapply (gStep_wp 𝒱 bd E d sc sub idxM rowM ochM _ _ _ _ d3 _ _ (goff_eqN k 3 (by decide)) (goff_eqN k 3 (by decide)) qi qr fI fR _ hI (hf.mono (by omega)))
  isplitl [HI]; · iexact HI
  isplitl [HR]; · iexact HR
  isplitl [HO]; · iexact HO
  iintro %f3 %hf HI HR HO
  iapply (gStep_wp 𝒱 bd E d sc sub idxM rowM ochM _ _ _ _ d4 _ _ (goff_eqN k 4 (by decide)) (goff_eqN k 4 (by decide)) qi qr fI fR _ hI (hf.mono (by omega)))
  isplitl [HI]; · iexact HI
  isplitl [HR]; · iexact HR
  isplitl [HO]; · iexact HO
  iintro %f4 %hf HI HR HO
  iapply (gStep_wp 𝒱 bd E d sc sub idxM rowM ochM _ _ _ _ d5 _ _ (goff_eqN k 5 (by decide)) (goff_eqN k 5 (by decide)) qi qr fI fR _ hI (hf.mono (by omega)))
  isplitl [HI]; · iexact HI
  isplitl [HR]; · iexact HR
  isplitl [HO]; · iexact HO
  iintro %f5 %hf HI HR HO
  iapply (gStep_wp 𝒱 bd E d sc sub idxM rowM ochM _ _ _ _ d6 _ _ (goff_eqN k 6 (by decide)) (goff_eqN k 6 (by decide)) qi qr fI fR _ hI (hf.mono (by omega)))
  isplitl [HI]; · iexact HI
  isplitl [HR]; · iexact HR
  isplitl [HO]; · iexact HO
  iintro %f6 %hf HI HR HO
  iapply (gStep_wp 𝒱 bd E d sc sub idxM rowM ochM _ _ _ _ d7 _ _ (goff_eqN k 7 (by decide)) (goff_eqN k 7 (by decide)) qi qr fI fR _ hI (hf.mono (by omega)))
  isplitl [HI]; · iexact HI
  isplitl [HR]; · iexact HR
  isplitl [HO]; · iexact HO
  iintro %f7 %hf HI HR HO
  iapply (gStep_wp 𝒱 bd E d sc sub idxM rowM ochM _ _ _ _ d8 _ _ (goff_eqN k 8 (by decide)) (goff_eqN k 8 (by decide)) qi qr fI fR _ hI (hf.mono (by omega)))
  isplitl [HI]; · iexact HI
  isplitl [HR]; · iexact HR
  isplitl [HO]; · iexact HO
  iintro %f8 %hf HI HR HO
  iapply (gStep_wp 𝒱 bd E d sc sub idxM rowM ochM _ _ _ _ d9 _ _ (goff_eqN k 9 (by decide)) (goff_eqN k 9 (by decide)) qi qr fI fR _ hI (hf.mono (by omega)))
  isplitl [HI]; · iexact HI
  isplitl [HR]; · iexact HR
  isplitl [HO]; · iexact HO
  iintro %f9 %hf HI HR HO
  iapply (gStep_wp 𝒱 bd E d sc sub idxM rowM ochM _ _ _ _ d10 _ _ (goff_eqN k 10 (by decide)) (goff_eqN k 10 (by decide)) qi qr fI fR _ hI (hf.mono (by omega)))
  isplitl [HI]; · iexact HI
  isplitl [HR]; · iexact HR
  isplitl [HO]; · iexact HO
  iintro %f10 %hf HI HR HO
  iapply (gStep_wp 𝒱 bd E d sc sub idxM rowM ochM _ _ _ _ d11 _ _ (goff_eqN k 11 (by decide)) (goff_eqN k 11 (by decide)) qi qr fI fR _ hI (hf.mono (by omega)))
  isplitl [HI]; · iexact HI
  isplitl [HR]; · iexact HR
  isplitl [HO]; · iexact HO
  iintro %f11 %hf HI HR HO
  iapply (gStep_wp 𝒱 bd E d sc sub idxM rowM ochM _ _ _ _ d12 _ _ (goff_eqN k 12 (by decide)) (goff_eqN k 12 (by decide)) qi qr fI fR _ hI (hf.mono (by omega)))
  isplitl [HI]; · iexact HI
  isplitl [HR]; · iexact HR
  isplitl [HO]; · iexact HO
  iintro %f12 %hf HI HR HO
  iapply (gStep_wp 𝒱 bd E d sc sub idxM rowM ochM _ _ _ _ d13 _ _ (goff_eqN k 13 (by decide)) (goff_eqN k 13 (by decide)) qi qr fI fR _ hI (hf.mono (by omega)))
  isplitl [HI]; · iexact HI
  isplitl [HR]; · iexact HR
  isplitl [HO]; · iexact HO
  iintro %f13 %hf HI HR HO
  iapply (gStep_wp 𝒱 bd E d sc sub idxM rowM ochM _ _ _ _ d14 _ _ (goff_eqN k 14 (by decide)) (goff_eqN k 14 (by decide)) qi qr fI fR _ hI (hf.mono (by omega)))
  isplitl [HI]; · iexact HI
  isplitl [HR]; · iexact HR
  isplitl [HO]; · iexact HO
  iintro %f14 %hf HI HR HO
  iapply (gStep_wp 𝒱 bd E d sc sub idxM rowM ochM _ _ _ _ d15 _ _ (goff_eqN k 15 (by decide)) (goff_eqN k 15 (by decide)) qi qr fI fR _ hI (hf.mono (by omega)))
  isplitl [HI]; · iexact HI
  isplitl [HR]; · iexact HR
  isplitl [HO]; · iexact HO
  iintro %f15 %hf HI HR HO
  rw [wp_ret]; imodintro
  iexists _
  isplitl [HI]; · iexact HI
  isplitl [HR]; · iexact HR
  isplitl [HO]; · iexact HO
  ipureintro; exact hf.mono (by omega)

end Loop

section LoopRule

variable {F : FTy → Type} [FloatOps F]
variable {Ix : Type} [DecidableEq Ix] {Name : Type} [DecidableEq Name] {U : Type} [URA U] {Lvl : Type} [Preorder Lvl] {Λ : Labels}
variable {defs : Defs nD τ sig (Elt F) Λ} (𝒱 : Variants) (bd : Option 𝒱.V) (E : Set Name)
variable (d : Dev nD) (sc : Fin τ.nSC) (sub : Fin τ.nSub)

local notation "𝕄" => MT nD τ sig Ix (Elt F) Name U Lvl
local notation "thr" => SparseCore.V (nD := nD) (τ := τ) d sc sub

theorem trips32 : Scf.trips (0#32 : BitVec 32) 32#32 1#32 = 32 := by decide

/-- The loop of 32 trips ahead of a continuation: from the three buffers held (index and row buffers at any
    share, every index word naming a row) to the output buffer reading the gather everywhere. -/
theorem gLoop_wp {α : Type} {Q : α → sProp 𝕄}
    (idxM : Memref sig .scVector .vmem S8192 .i32) (rowM : Memref sig .scVector .vmem S100000 .f32) (ochM : Memref sig .scVector .vmem S8192 .f32)
    (hok : Scf.OK (0#32 : BitVec 32) 32#32 1#32) (init : BitVec 32)
    (body : Fin (Scf.trips (0#32 : BitVec 32) 32#32 1#32) → BitVec 32 → Prog (TpuEff nD τ sig (Elt F) Λ (.scVector sc sub)) (BitVec 32))
    (d0 d1 d2 d3 d4 d5 d6 d7 d8 d9 d10 d11 d12 d13 d14 d15 : ∀ v, Decidable (gchk v)) (r : BitVec 32)
    (hbody : ∀ k acc, body k acc = gTrip idxM rowM ochM k d0 d1 d2 d3 d4 d5 d6 d7 d8 d9 d10 d11 d12 d13 d14 d15 r)
    (kk : BitVec 32 → Prog (TpuEff nD τ sig (Elt F) Λ (.scVector sc sub)) α) (qi qr : PosShare TreeShare)
    (fI : Buf (Elt F) (idxM.view.loc thr)) (fR : Buf (Elt F) ((rowM.access (.whole S100000)).loc thr)) (fO : Buf (Elt F) (ochM.view.loc thr))
    (hI : ∀ y, (idxM.view.read (Elt F) fI y).toNat < 100000) :
    iprop((idxM.view.loc thr ↦{qi} fI) ∗ ((rowM.access (.whole S100000)).loc thr ↦{qr} fR) ∗ (ochM.view.loc thr ↦{fullShare} fO)
        ∗ (∀ (acc : BitVec 32) (fO' : Buf (Elt F) (ochM.view.loc thr)),
            ⌜ochM.view.read (Elt F) fO' = gat ((rowM.access (.whole S100000)).read (Elt F) fR) (idxM.view.read (Elt F) fI)⌝
            -∗ (idxM.view.loc thr ↦{qi} fI) -∗ ((rowM.access (.whole S100000)).loc thr ↦{qr} fR) -∗ (ochM.view.loc thr ↦{fullShare} fO')
            -∗ wp frame (wpE defs 𝒱 thr bd) E (kk acc) Q))
      ⊢ wp frame (wpE defs 𝒱 thr bd) E (Scf.for (0#32 : BitVec 32) 32#32 1#32 hok init body >>= kk) Q := by
  iintro ⟨HI, HR, HO, Hk⟩
  iapply (Scf.wp_for_bind frame (wpE defs 𝒱 thr bd) E (0#32 : BitVec 32) 32#32 1#32 hok init body
    (inv (Ix := Ix) (Name := Name) (U := U) (Lvl := Lvl) d sc sub idxM rowM ochM qi qr fI fR) ?region) $$ [HI HR HO]
  case region =>
    intro k acc
    rw [hbody k acc]
    exact gTrip_wp 𝒱 bd E d sc sub idxM rowM ochM k d0 d1 d2 d3 d4 d5 d6 d7 d8 d9 d10 d11 d12 d13 d14 d15 r acc qi qr fI fR hI
  · unfold inv
    iexists fO
    isplitl [HI]; · iexact HI
    isplitl [HR]; · iexact HR
    isplitl [HO]; · iexact HO
    ipureintro; exact fun y hy => absurd hy (by simp)
  iintro %acc HInv
  unfold inv
  icases HInv with ⟨%f, HI, HR, HO, %hf⟩
  have hall := Good.all (hf.mono (by rw [trips32]))
  ispecialize Hk $$ %acc %f %hall HI HR HO
  iexact Hk

end LoopRule

end Cert.KernelIdeal.Gather
-- ==== Proof.BodyRowVal.lean ====
import proofs.«204037_g66941360275737_cont_sun_c4_657_24_alg».proof.Proof.BodyRow
import proofs.«204037_g66941360275737_cont_sun_c4_657_24_alg».proof.Proof.BodyGather
import proofs.«204037_g66941360275737_cont_sun_c4_657_24_alg».proof.Proof.UnitArithK

noncomputable section

namespace Cert.Proof.BodyRow

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Shapes1.Facts₀
open K0.R1.Facts₀ (hcore0 hsub0)
open Cert.UnitArith (dlo dhi dlo_le_dhi dhi_le mem_range_iff')
open Cert.KernelIdeal.UnitArithK

variable {F : FTy → Type} [FloatOps F] [Facts]

local notation "𝕄" => MT nD τ sig (HIx 1) (Elt F) ℕ UU ℕ

/-! ## Where the row views sit in their arrays -/

omit [FloatOps F] in
/-- Element `y` of the half-row view at offsets `off` is the output array's element `(off 0, off 1 + y)`. -/
theorem dst_emb (off : Fin 2 → Nat) (inb : ∀ a, off a + S1x8192.size a ≤ S936x16384.size a) (y : S8192.Idx) :
    (((dstRow oV off inb).view.emb y) 0 : ℕ) = off 0 ∧ (((dstRow oV off inb).view.emb y) 1 : ℕ) = off 1 + (y 0 : ℕ) := by
  have e1 : (dstRow oV off inb).view.emb y
      = (Rect.unit (s := S936x16384) off S1x8192.size inb).emb (Shape.reshapeEquiv squeezes_S1x8192_S8192.numel_eq y) := rfl
  rw [e1, Shape.reshapeEquiv_cons_one]
  constructor
  · simp only [Rect.emb_apply, Rect.off_unit, Rect.stride_unit]
    show off 0 + 1 * 0 = off 0
    omega
  · simp only [Rect.emb_apply, Rect.off_unit, Rect.stride_unit]
    show off 1 + 1 * (y 0 : ℕ) = off 1 + (y 0 : ℕ)
    omega

/-- The table entry at component `a` and row `b`, both reduced into range. -/
def tIx (a b : ℕ) : S36x100000.Idx := ix2 ⟨a % 36, Nat.mod_lt _ (by decide)⟩ ⟨b % 100000, Nat.mod_lt _ (by decide)⟩

variable (c : Fin τ.nSC) (s : Fin τ.nSub) (defs : Defs nD τ sig (Elt F) Λ₀) (d : Dev nD)

/-- The loop over the rows of one field, with the value stated entry by entry: `Tfun` is the table as a function of
    (component, row), `xrow` the field's index words, and `G` at row `u` of the field, column `b`, is the table's entry at
    component `u % 36` and the row that word `b` selects. -/
theorem rows_loop_val (tbl : Memref sig .scVector .hbm S36x100000 .f32) (htbl : tbl.IsWhole)
    (s1 s2 s3 : DmaSems sig S_) (l : Scf.Loop 32) (hok : l.OK) (init : BitVec 32)
    (body : Fin l.trips → BitVec 32 → Prog (TpuEff nD τ sig (Elt F) Λ₀ (.scVector c s)) (BitVec 32))
    (offT : Fin l.trips → Fin 2 → Nat) (inbT : ∀ k a, offT k a + S1x100000.size a ≤ S36x100000.size a)
    (offA : Fin l.trips → Fin 2 → Nat) (inbA : ∀ k a, offA k a + S1x8192.size a ≤ S936x16384.size a)
    (offB : Fin l.trips → Fin 2 → Nat) (inbB : ∀ k a, offB k a + S1x8192.size a ≤ S936x16384.size a)
    (la lb : Fin l.trips → Prog (TpuEff nD τ sig (Elt F) Λ₀ (.scVector c s)) (BitVec 32))
    (hbody : ∀ k acc, body k acc = tripProg (F := F) c s tbl oV sRow (Memref.isWhole_whole _) sOch (Memref.isWhole_whole _) s1 s2 s3
        (offT k) (inbT k) (offA k) (inbA k) (offB k) (inbB k) (la k) (lb k))
    (IA IB : sProp 𝕄) (xrow : Fin 16384 → BitVec 32)
    (hla : ∀ k, GatherRule (F := F) c s defs d (la k) sRow sOch IA (fun y => xrow ⟨(y 0).val, Nat.lt_of_lt_of_le (y 0).isLt (by decide)⟩))
    (hlb : ∀ k, GatherRule (F := F) c s defs d (lb k) sRow sOch IB (fun y => xrow ⟨(y 0).val + 8192, Nat.add_lt_add_right (y 0).isLt 8192⟩))
    (O : CellTallies nD τ sig (HIx 1)) (W0 : Waits sig (HIx 1)) (q : PosShare TreeShare)
    (ft : Buf (Elt F) (tbl.view.loc (V d c s))) (Tfun : S36x100000.Idx → Elt F .f32)
    (hsrc : ∀ off inb r, (srcRow tbl off inb).view.read (Elt F) ft r = Tfun (tIx (off 0) (off 1 + (r 0).val)))
    (Tset : Finset S936x16384.Idx) (lo hi : ℕ) (hT : ∀ j, j ∈ Tset ↔ lo ≤ (j 0).val ∧ (j 0).val < hi)
    (G g0 : Buf (Elt F) (oV.view.loc (V d c s))) (K dT base : ℕ) (hbase : base = K + dT) (hK : K % 36 = 0) (hdT : dT + l.trips ≤ 36)
    (hlo : 0 < l.trips → lo ≤ base) (hhi : 0 < l.trips → base + l.trips ≤ hi)
    (hoffT : ∀ k : Fin l.trips, offT k = ![dT + k.val, 0])
    (hoffA : ∀ k : Fin l.trips, offA k = ![base + k.val, 0]) (hoffB : ∀ k : Fin l.trips, offB k = ![base + k.val, 8192])
    (hG : ∀ x : S936x16384.Idx, base ≤ (x 0).val → (x 0).val < base + l.trips → G x = Tfun (tIx (x 0).val (xrow (x 1)).toNat))
    {α : Type} (kk : BitVec 32 → Prog (TpuEff nD τ sig (Elt F) Λ₀ (.scVector c s)) α) (Q : α → sProp 𝕄) :
    iprop(rowsInv (F := F) c s d tbl s1 s2 s3 IA IB O W0 q ft Tset G g0 base 0 init
        ∗ (∀ acc, rowsInv (F := F) c s d tbl s1 s2 s3 IA IB O W0 q ft Tset G g0 base l.trips acc
            -∗ wp frame (wpE defs Variants.none (V d c s) none) Set.univ (kk acc) Q))
      ⊢ wp frame (wpE defs Variants.none (V d c s) none) Set.univ (Scf.Loop.for l hok init body >>= kk) Q := by
  refine rows_loop (F := F) c s defs d tbl htbl s1 s2 s3 l hok init body offT inbT offA inbA offB inbB la lb hbody IA IB _ _ hla hlb O W0 q ft
    Tset lo hi hT G g0 base hlo hhi hoffA hoffB (fun k => ?_) (fun k => ?_) kk Q
  · funext y
    obtain ⟨e0, e1⟩ := dst_emb (offA k) (inbA k) y
    have a0 : offA k 0 = base + k.val := by rw [hoffA k]; rfl
    have a1 : offA k 1 = 0 := by rw [hoffA k]; rfl
    have t0 : offT k 0 = dT + k.val := by rw [hoffT k]; rfl
    have t1 : offT k 1 = 0 := by rw [hoffT k]; rfl
    have hk := k.isLt
    have hy : (y 0).val < 8192 := (y 0).isLt
    rw [hsrc, View.read_apply]
    show G ((dstRow oV (offA k) (inbA k)).view.emb y) = _
    rw [hG _ (by omega) (by omega)]
    congr 1
    have hxc : (((dstRow oV (offA k) (inbA k)).view.emb y) 1 : Fin 16384) = ⟨(y 0).val, by omega⟩ := Fin.ext (by show _ = (y 0).val; omega)
    rw [hxc]
    unfold tIx
    congr 1
    · apply Fin.ext
      show _ % 36 = _ % 36
      omega
    · apply Fin.ext
      show (xrow _).toNat % 100000 = (offT k 1 + (xrow _).toNat % 100000) % 100000
      rw [t1, Nat.zero_add, Nat.mod_mod]
      rfl
  · funext y
    obtain ⟨e0, e1⟩ := dst_emb (offB k) (inbB k) y
    have a0 : offB k 0 = base + k.val := by rw [hoffB k]; rfl
    have a1 : offB k 1 = 8192 := by rw [hoffB k]; rfl
    have t0 : offT k 0 = dT + k.val := by rw [hoffT k]; rfl
    have t1 : offT k 1 = 0 := by rw [hoffT k]; rfl
    have hk := k.isLt
    have hy : (y 0).val < 8192 := (y 0).isLt
    rw [hsrc, View.read_apply]
    show G ((dstRow oV (offB k) (inbB k)).view.emb y) = _
    rw [hG _ (by omega) (by omega)]
    congr 1
    have hxc : (((dstRow oV (offB k) (inbB k)).view.emb y) 1 : Fin 16384) = ⟨(y 0).val + 8192, by omega⟩ := Fin.ext (by show _ = (y 0).val + 8192; omega)
    rw [hxc]
    unfold tIx
    congr 1
    · apply Fin.ext
      show _ % 36 = _ % 36
      omega
    · apply Fin.ext
      show (xrow _).toNat % 100000 = (offT k 1 + (xrow _).toNat % 100000) % 100000
      rw [t1, Nat.zero_add, Nat.mod_mod]
      rfl

/-- The same, with the two index scratches in the form the rows' loop finds them: whenever the loop has a trip, their reads
    are the two halves of the field's index words. -/
theorem field_loop (tbl : Memref sig .scVector .hbm S36x100000 .f32) (htbl : tbl.IsWhole)
    (s1 s2 s3 : DmaSems sig S_) (l : Scf.Loop 32) (hok : l.OK) (init : BitVec 32)
    (body : Fin l.trips → BitVec 32 → Prog (TpuEff nD τ sig (Elt F) Λ₀ (.scVector c s)) (BitVec 32))
    (offT : Fin l.trips → Fin 2 → Nat) (inbT : ∀ k a, offT k a + S1x100000.size a ≤ S36x100000.size a)
    (offA : Fin l.trips → Fin 2 → Nat) (inbA : ∀ k a, offA k a + S1x8192.size a ≤ S936x16384.size a)
    (offB : Fin l.trips → Fin 2 → Nat) (inbB : ∀ k a, offB k a + S1x8192.size a ≤ S936x16384.size a)
    (la lb : Fin l.trips → Prog (TpuEff nD τ sig (Elt F) Λ₀ (.scVector c s)) (BitVec 32))
    (hbody : ∀ k acc, body k acc = tripProg (F := F) c s tbl oV sRow (Memref.isWhole_whole _) sOch (Memref.isWhole_whole _) s1 s2 s3
        (offT k) (inbT k) (offA k) (inbA k) (offB k) (inbB k) (la k) (lb k))
    (idxA idxB : Memref sig .scVector .vmem S8192 .i32)
    (fa : Buf (Elt F) (idxA.view.loc (V d c s))) (fb : Buf (Elt F) (idxB.view.loc (V d c s))) (xrow : Fin 16384 → BitVec 32)
    (hla : ∀ k, GatherRule (F := F) c s defs d (la k) sRow sOch (idxA.view.loc (V d c s) ↦{fullShare} fa) (idxA.view.read (Elt F) fa))
    (hlb : ∀ k, GatherRule (F := F) c s defs d (lb k) sRow sOch (idxB.view.loc (V d c s) ↦{fullShare} fb) (idxB.view.read (Elt F) fb))
    (hidx : 0 < l.trips → (∀ y : S8192.Idx, idxA.view.read (Elt F) fa y = xrow ⟨(y 0).val, Nat.lt_of_lt_of_le (y 0).isLt (by decide)⟩)
      ∧ (∀ y : S8192.Idx, idxB.view.read (Elt F) fb y = xrow ⟨(y 0).val + 8192, Nat.add_lt_add_right (y 0).isLt 8192⟩))
    (O : CellTallies nD τ sig (HIx 1)) (W0 : Waits sig (HIx 1)) (q : PosShare TreeShare)
    (ft : Buf (Elt F) (tbl.view.loc (V d c s))) (Tfun : S36x100000.Idx → Elt F .f32)
    (hsrc : ∀ off inb r, (srcRow tbl off inb).view.read (Elt F) ft r = Tfun (tIx (off 0) (off 1 + (r 0).val)))
    (Tset : Finset S936x16384.Idx) (lo hi : ℕ) (hT : ∀ j, j ∈ Tset ↔ lo ≤ (j 0).val ∧ (j 0).val < hi)
    (G g0 : Buf (Elt F) (oV.view.loc (V d c s))) (K dT base : ℕ) (hbase : base = K + dT) (hK : K % 36 = 0) (hdT : dT + l.trips ≤ 36)
    (hlo : 0 < l.trips → lo ≤ base) (hhi : 0 < l.trips → base + l.trips ≤ hi)
    (hoffT : ∀ k : Fin l.trips, offT k = ![dT + k.val, 0])
    (hoffA : ∀ k : Fin l.trips, offA k = ![base + k.val, 0]) (hoffB : ∀ k : Fin l.trips, offB k = ![base + k.val, 8192])
    (hG : ∀ x : S936x16384.Idx, base ≤ (x 0).val → (x 0).val < base + l.trips → G x = Tfun (tIx (x 0).val (xrow (x 1)).toNat))
    {α : Type} (kk : BitVec 32 → Prog (TpuEff nD τ sig (Elt F) Λ₀ (.scVector c s)) α) (Q : α → sProp 𝕄) :
    iprop(rowsInv (F := F) c s d tbl s1 s2 s3 (idxA.view.loc (V d c s) ↦{fullShare} fa) (idxB.view.loc (V d c s) ↦{fullShare} fb) O W0 q ft Tset G g0 base 0 init
        ∗ (∀ acc, rowsInv (F := F) c s d tbl s1 s2 s3 (idxA.view.loc (V d c s) ↦{fullShare} fa) (idxB.view.loc (V d c s) ↦{fullShare} fb) O W0 q ft Tset G g0 base l.trips acc
            -∗ wp frame (wpE defs Variants.none (V d c s) none) Set.univ (kk acc) Q))
      ⊢ wp frame (wpE defs Variants.none (V d c s) none) Set.univ (Scf.Loop.for l hok init body >>= kk) Q := by
  refine rows_loop_val (F := F) c s defs d tbl htbl s1 s2 s3 l hok init body offT inbT offA inbA offB inbB la lb hbody _ _ xrow
    (fun k => ?_) (fun k => ?_) O W0 q ft Tfun hsrc Tset lo hi hT G g0 K dT base hbase hK hdT hlo hhi hoffT hoffA hoffB hG kk Q
  · have h := (hidx (Nat.lt_of_le_of_lt (Nat.zero_le _) k.isLt)).1
    rw [← funext h]
    intro α kk' Q' fR fO
    exact hla k kk' Q' fR fO
  · have h := (hidx (Nat.lt_of_le_of_lt (Nat.zero_le _) k.isLt)).2
    rw [← funext h]
    intro α kk' Q' fR fO
    exact hlb k kk' Q' fR fO

/-! ## The gather loops' rules, in the form the trip takes them -/

/-- A gather loop's rule as the trip takes it, from the rule stated with the gathered vector spelt as
    `Cert.KernelIdeal.Gather.gat` over the row scratch's whole-buffer access. -/
theorem gatherRule_of (la : Prog (TpuEff nD τ sig (Elt F) Λ₀ (.scVector c s)) (BitVec 32))
    (idxM : Memref sig .scVector .vmem S8192 .i32) (fI : Buf (Elt F) (idxM.view.loc (V d c s)))
    (hrule : ∀ {α : Type} (kk : BitVec 32 → Prog (TpuEff nD τ sig (Elt F) Λ₀ (.scVector c s)) α) (Q : α → sProp 𝕄)
      (fR : Buf (Elt F) (sRow.view.loc (V d c s))) (fO : Buf (Elt F) (sOch.view.loc (V d c s))),
      iprop((idxM.view.loc (V d c s) ↦{fullShare} fI) ∗ (sRow.view.loc (V d c s) ↦{fullShare} fR) ∗ (sOch.view.loc (V d c s) ↦{fullShare} fO)
          ∗ (∀ (acc : BitVec 32) (fO' : Buf (Elt F) (sOch.view.loc (V d c s))),
              ⌜sOch.view.read (Elt F) fO' = Cert.KernelIdeal.Gather.gat ((sRow.access (.whole S100000)).read (Elt F) fR) (idxM.view.read (Elt F) fI)⌝
              -∗ (idxM.view.loc (V d c s) ↦{fullShare} fI) -∗ (sRow.view.loc (V d c s) ↦{fullShare} fR) -∗ (sOch.view.loc (V d c s) ↦{fullShare} fO')
              -∗ wp frame (wpE defs Variants.none (V d c s) none) Set.univ (kk acc) Q))
        ⊢ wp frame (wpE defs Variants.none (V d c s) none) Set.univ (la >>= kk) Q) :
    GatherRule (F := F) c s defs d la sRow sOch (idxM.view.loc (V d c s) ↦{fullShare} fI) (idxM.view.read (Elt F) fI) := by
  intro α kk Q fR fO
  iintro ⟨HIA, Hr, Ho, Hk⟩
  iapply (hrule kk Q fR fO)
  isplitl [HIA]; · iexact HIA
  isplitl [Hr]; · iexact Hr
  isplitl [Ho]; · iexact Ho
  iintro %acc %fO' %h HI HR HO
  have h' : sOch.view.read (Elt F) fO' = fun y => sRow.view.read (Elt F) fR (rowOf (idxM.view.read (Elt F) fI y)) := by
    have ea : (sRow.access (.whole S100000)).read (Elt F) fR = fR := Memref.read_access_whole (Elt F) cc0_scratch0 fR
    rw [h, Cert.KernelIdeal.Gather.gat_eq, ea]
    rfl
  ispecialize Hk $$ %acc %fO' %h' HI HR HO
  iexact Hk

/-! ## Reading a table row through its view -/

/-- Reading row `off 0` of table 1 through its row view: entry `(off 0, off 1 + r)` of the table. -/
theorem src_read_1 (d : Dev nD) (c : Fin τ.nSC) (s : Fin τ.nSub) (ft : Buf (Elt F) ((Memref.whole main_v1_scv : Memref sig .scVector .hbm S36x100000 .f32).view.loc (V d c s)))
    (off : Fin 2 → Nat) (inb : ∀ a, off a + S1x100000.size a ≤ S36x100000.size a) (r : S100000.Idx) :
    (srcRow (Memref.whole main_v1_scv) off inb).view.read (Elt F) ft r = ft (tIx (off 0) (off 1 + (r 0).val)) := by
  have e1 : (srcRow (Memref.whole main_v1_scv) off inb).view.emb r
      = (Rect.unit (s := S36x100000) off S1x100000.size inb).emb (Shape.reshapeEquiv squeezes_S1x100000_S100000.numel_eq r) := rfl
  rw [View.read_apply]
  show ft ((srcRow (Memref.whole main_v1_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 2 through its row view: entry `(off 0, off 1 + r)` of the table. -/
theorem src_read_2 (d : Dev nD) (c : Fin τ.nSC) (s : Fin τ.nSub) (ft : Buf (Elt F) ((Memref.whole main_v2_scv : Memref sig .scVector .hbm S36x100000 .f32).view.loc (V d c s)))
    (off : Fin 2 → Nat) (inb : ∀ a, off a + S1x100000.size a ≤ S36x100000.size a) (r : S100000.Idx) :
    (srcRow (Memref.whole main_v2_scv) off inb).view.read (Elt F) ft r = ft (tIx (off 0) (off 1 + (r 0).val)) := by
  have e1 : (srcRow (Memref.whole main_v2_scv) off inb).view.emb r
      = (Rect.unit (s := S36x100000) off S1x100000.size inb).emb (Shape.reshapeEquiv squeezes_S1x100000_S100000.numel_eq r) := rfl
  rw [View.read_apply]
  show ft ((srcRow (Memref.whole main_v2_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 3 through its row view: entry `(off 0, off 1 + r)` of the table. -/
theorem src_read_3 (d : Dev nD) (c : Fin τ.nSC) (s : Fin τ.nSub) (ft : Buf (Elt F) ((Memref.whole main_v3_scv : Memref sig .scVector .hbm S36x100000 .f32).view.loc (V d c s)))
    (off : Fin 2 → Nat) (inb : ∀ a, off a + S1x100000.size a ≤ S36x100000.size a) (r : S100000.Idx) :
    (srcRow (Memref.whole main_v3_scv) off inb).view.read (Elt F) ft r = ft (tIx (off 0) (off 1 + (r 0).val)) := by
  have e1 : (srcRow (Memref.whole main_v3_scv) off inb).view.emb r
      = (Rect.unit (s := S36x100000) off S1x100000.size inb).emb (Shape.reshapeEquiv squeezes_S1x100000_S100000.numel_eq r) := rfl
  rw [View.read_apply]
  show ft ((srcRow (Memref.whole main_v3_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 4 through its row view: entry `(off 0, off 1 + r)` of the table. -/
theorem src_read_4 (d : Dev nD) (c : Fin τ.nSC) (s : Fin τ.nSub) (ft : Buf (Elt F) ((Memref.whole main_v4_scv : Memref sig .scVector .hbm S36x100000 .f32).view.loc (V d c s)))
    (off : Fin 2 → Nat) (inb : ∀ a, off a + S1x100000.size a ≤ S36x100000.size a) (r : S100000.Idx) :
    (srcRow (Memref.whole main_v4_scv) off inb).view.read (Elt F) ft r = ft (tIx (off 0) (off 1 + (r 0).val)) := by
  have e1 : (srcRow (Memref.whole main_v4_scv) off inb).view.emb r
      = (Rect.unit (s := S36x100000) off S1x100000.size inb).emb (Shape.reshapeEquiv squeezes_S1x100000_S100000.numel_eq r) := rfl
  rw [View.read_apply]
  show ft ((srcRow (Memref.whole main_v4_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 5 through its row view: entry `(off 0, off 1 + r)` of the table. -/
theorem src_read_5 (d : Dev nD) (c : Fin τ.nSC) (s : Fin τ.nSub) (ft : Buf (Elt F) ((Memref.whole main_v5_scv : Memref sig .scVector .hbm S36x100000 .f32).view.loc (V d c s)))
    (off : Fin 2 → Nat) (inb : ∀ a, off a + S1x100000.size a ≤ S36x100000.size a) (r : S100000.Idx) :
    (srcRow (Memref.whole main_v5_scv) off inb).view.read (Elt F) ft r = ft (tIx (off 0) (off 1 + (r 0).val)) := by
  have e1 : (srcRow (Memref.whole main_v5_scv) off inb).view.emb r
      = (Rect.unit (s := S36x100000) off S1x100000.size inb).emb (Shape.reshapeEquiv squeezes_S1x100000_S100000.numel_eq r) := rfl
  rw [View.read_apply]
  show ft ((srcRow (Memref.whole main_v5_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 6 through its row view: entry `(off 0, off 1 + r)` of the table. -/
theorem src_read_6 (d : Dev nD) (c : Fin τ.nSC) (s : Fin τ.nSub) (ft : Buf (Elt F) ((Memref.whole main_v6_scv : Memref sig .scVector .hbm S36x100000 .f32).view.loc (V d c s)))
    (off : Fin 2 → Nat) (inb : ∀ a, off a + S1x100000.size a ≤ S36x100000.size a) (r : S100000.Idx) :
    (srcRow (Memref.whole main_v6_scv) off inb).view.read (Elt F) ft r = ft (tIx (off 0) (off 1 + (r 0).val)) := by
  have e1 : (srcRow (Memref.whole main_v6_scv) off inb).view.emb r
      = (Rect.unit (s := S36x100000) off S1x100000.size inb).emb (Shape.reshapeEquiv squeezes_S1x100000_S100000.numel_eq r) := rfl
  rw [View.read_apply]
  show ft ((srcRow (Memref.whole main_v6_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 7 through its row view: entry `(off 0, off 1 + r)` of the table. -/
theorem src_read_7 (d : Dev nD) (c : Fin τ.nSC) (s : Fin τ.nSub) (ft : Buf (Elt F) ((Memref.whole main_v7_scv : Memref sig .scVector .hbm S36x100000 .f32).view.loc (V d c s)))
    (off : Fin 2 → Nat) (inb : ∀ a, off a + S1x100000.size a ≤ S36x100000.size a) (r : S100000.Idx) :
    (srcRow (Memref.whole main_v7_scv) off inb).view.read (Elt F) ft r = ft (tIx (off 0) (off 1 + (r 0).val)) := by
  have e1 : (srcRow (Memref.whole main_v7_scv) off inb).view.emb r
      = (Rect.unit (s := S36x100000) off S1x100000.size inb).emb (Shape.reshapeEquiv squeezes_S1x100000_S100000.numel_eq r) := rfl
  rw [View.read_apply]
  show ft ((srcRow (Memref.whole main_v7_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 8 through its row view: entry `(off 0, off 1 + r)` of the table. -/
theorem src_read_8 (d : Dev nD) (c : Fin τ.nSC) (s : Fin τ.nSub) (ft : Buf (Elt F) ((Memref.whole main_v8_scv : Memref sig .scVector .hbm S36x100000 .f32).view.loc (V d c s)))
    (off : Fin 2 → Nat) (inb : ∀ a, off a + S1x100000.size a ≤ S36x100000.size a) (r : S100000.Idx) :
    (srcRow (Memref.whole main_v8_scv) off inb).view.read (Elt F) ft r = ft (tIx (off 0) (off 1 + (r 0).val)) := by
  have e1 : (srcRow (Memref.whole main_v8_scv) off inb).view.emb r
      = (Rect.unit (s := S36x100000) off S1x100000.size inb).emb (Shape.reshapeEquiv squeezes_S1x100000_S100000.numel_eq r) := rfl
  rw [View.read_apply]
  show ft ((srcRow (Memref.whole main_v8_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 9 through its row view: entry `(off 0, off 1 + r)` of the table. -/
theorem src_read_9 (d : Dev nD) (c : Fin τ.nSC) (s : Fin τ.nSub) (ft : Buf (Elt F) ((Memref.whole main_v9_scv : Memref sig .scVector .hbm S36x100000 .f32).view.loc (V d c s)))
    (off : Fin 2 → Nat) (inb : ∀ a, off a + S1x100000.size a ≤ S36x100000.size a) (r : S100000.Idx) :
    (srcRow (Memref.whole main_v9_scv) off inb).view.read (Elt F) ft r = ft (tIx (off 0) (off 1 + (r 0).val)) := by
  have e1 : (srcRow (Memref.whole main_v9_scv) off inb).view.emb r
      = (Rect.unit (s := S36x100000) off S1x100000.size inb).emb (Shape.reshapeEquiv squeezes_S1x100000_S100000.numel_eq r) := rfl
  rw [View.read_apply]
  show ft ((srcRow (Memref.whole main_v9_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 10 through its row view: entry `(off 0, off 1 + r)` of the table. -/
theorem src_read_10 (d : Dev nD) (c : Fin τ.nSC) (s : Fin τ.nSub) (ft : Buf (Elt F) ((Memref.whole main_v10_scv : Memref sig .scVector .hbm S36x100000 .f32).view.loc (V d c s)))
    (off : Fin 2 → Nat) (inb : ∀ a, off a + S1x100000.size a ≤ S36x100000.size a) (r : S100000.Idx) :
    (srcRow (Memref.whole main_v10_scv) off inb).view.read (Elt F) ft r = ft (tIx (off 0) (off 1 + (r 0).val)) := by
  have e1 : (srcRow (Memref.whole main_v10_scv) off inb).view.emb r
      = (Rect.unit (s := S36x100000) off S1x100000.size inb).emb (Shape.reshapeEquiv squeezes_S1x100000_S100000.numel_eq r) := rfl
  rw [View.read_apply]
  show ft ((srcRow (Memref.whole main_v10_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 11 through its row view: entry `(off 0, off 1 + r)` of the table. -/
theorem src_read_11 (d : Dev nD) (c : Fin τ.nSC) (s : Fin τ.nSub) (ft : Buf (Elt F) ((Memref.whole main_v11_scv : Memref sig .scVector .hbm S36x100000 .f32).view.loc (V d c s)))
    (off : Fin 2 → Nat) (inb : ∀ a, off a + S1x100000.size a ≤ S36x100000.size a) (r : S100000.Idx) :
    (srcRow (Memref.whole main_v11_scv) off inb).view.read (Elt F) ft r = ft (tIx (off 0) (off 1 + (r 0).val)) := by
  have e1 : (srcRow (Memref.whole main_v11_scv) off inb).view.emb r
      = (Rect.unit (s := S36x100000) off S1x100000.size inb).emb (Shape.reshapeEquiv squeezes_S1x100000_S100000.numel_eq r) := rfl
  rw [View.read_apply]
  show ft ((srcRow (Memref.whole main_v11_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 12 through its row view: entry `(off 0, off 1 + r)` of the table. -/
theorem src_read_12 (d : Dev nD) (c : Fin τ.nSC) (s : Fin τ.nSub) (ft : Buf (Elt F) ((Memref.whole main_v12_scv : Memref sig .scVector .hbm S36x100000 .f32).view.loc (V d c s)))
    (off : Fin 2 → Nat) (inb : ∀ a, off a + S1x100000.size a ≤ S36x100000.size a) (r : S100000.Idx) :
    (srcRow (Memref.whole main_v12_scv) off inb).view.read (Elt F) ft r = ft (tIx (off 0) (off 1 + (r 0).val)) := by
  have e1 : (srcRow (Memref.whole main_v12_scv) off inb).view.emb r
      = (Rect.unit (s := S36x100000) off S1x100000.size inb).emb (Shape.reshapeEquiv squeezes_S1x100000_S100000.numel_eq r) := rfl
  rw [View.read_apply]
  show ft ((srcRow (Memref.whole main_v12_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 13 through its row view: entry `(off 0, off 1 + r)` of the table. -/
theorem src_read_13 (d : Dev nD) (c : Fin τ.nSC) (s : Fin τ.nSub) (ft : Buf (Elt F) ((Memref.whole main_v13_scv : Memref sig .scVector .hbm S36x100000 .f32).view.loc (V d c s)))
    (off : Fin 2 → Nat) (inb : ∀ a, off a + S1x100000.size a ≤ S36x100000.size a) (r : S100000.Idx) :
    (srcRow (Memref.whole main_v13_scv) off inb).view.read (Elt F) ft r = ft (tIx (off 0) (off 1 + (r 0).val)) := by
  have e1 : (srcRow (Memref.whole main_v13_scv) off inb).view.emb r
      = (Rect.unit (s := S36x100000) off S1x100000.size inb).emb (Shape.reshapeEquiv squeezes_S1x100000_S100000.numel_eq r) := rfl
  rw [View.read_apply]
  show ft ((srcRow (Memref.whole main_v13_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 14 through its row view: entry `(off 0, off 1 + r)` of the table. -/
theorem src_read_14 (d : Dev nD) (c : Fin τ.nSC) (s : Fin τ.nSub) (ft : Buf (Elt F) ((Memref.whole main_v14_scv : Memref sig .scVector .hbm S36x100000 .f32).view.loc (V d c s)))
    (off : Fin 2 → Nat) (inb : ∀ a, off a + S1x100000.size a ≤ S36x100000.size a) (r : S100000.Idx) :
    (srcRow (Memref.whole main_v14_scv) off inb).view.read (Elt F) ft r = ft (tIx (off 0) (off 1 + (r 0).val)) := by
  have e1 : (srcRow (Memref.whole main_v14_scv) off inb).view.emb r
      = (Rect.unit (s := S36x100000) off S1x100000.size inb).emb (Shape.reshapeEquiv squeezes_S1x100000_S100000.numel_eq r) := rfl
  rw [View.read_apply]
  show ft ((srcRow (Memref.whole main_v14_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 15 through its row view: entry `(off 0, off 1 + r)` of the table. -/
theorem src_read_15 (d : Dev nD) (c : Fin τ.nSC) (s : Fin τ.nSub) (ft : Buf (Elt F) ((Memref.whole main_v15_scv : Memref sig .scVector .hbm S36x100000 .f32).view.loc (V d c s)))
    (off : Fin 2 → Nat) (inb : ∀ a, off a + S1x100000.size a ≤ S36x100000.size a) (r : S100000.Idx) :
    (srcRow (Memref.whole main_v15_scv) off inb).view.read (Elt F) ft r = ft (tIx (off 0) (off 1 + (r 0).val)) := by
  have e1 : (srcRow (Memref.whole main_v15_scv) off inb).view.emb r
      = (Rect.unit (s := S36x100000) off S1x100000.size inb).emb (Shape.reshapeEquiv squeezes_S1x100000_S100000.numel_eq r) := rfl
  rw [View.read_apply]
  show ft ((srcRow (Memref.whole main_v15_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 16 through its row view: entry `(off 0, off 1 + r)` of the table. -/
theorem src_read_16 (d : Dev nD) (c : Fin τ.nSC) (s : Fin τ.nSub) (ft : Buf (Elt F) ((Memref.whole main_v16_scv : Memref sig .scVector .hbm S36x100000 .f32).view.loc (V d c s)))
    (off : Fin 2 → Nat) (inb : ∀ a, off a + S1x100000.size a ≤ S36x100000.size a) (r : S100000.Idx) :
    (srcRow (Memref.whole main_v16_scv) off inb).view.read (Elt F) ft r = ft (tIx (off 0) (off 1 + (r 0).val)) := by
  have e1 : (srcRow (Memref.whole main_v16_scv) off inb).view.emb r
      = (Rect.unit (s := S36x100000) off S1x100000.size inb).emb (Shape.reshapeEquiv squeezes_S1x100000_S100000.numel_eq r) := rfl
  rw [View.read_apply]
  show ft ((srcRow (Memref.whole main_v16_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 17 through its row view: entry `(off 0, off 1 + r)` of the table. -/
theorem src_read_17 (d : Dev nD) (c : Fin τ.nSC) (s : Fin τ.nSub) (ft : Buf (Elt F) ((Memref.whole main_v17_scv : Memref sig .scVector .hbm S36x100000 .f32).view.loc (V d c s)))
    (off : Fin 2 → Nat) (inb : ∀ a, off a + S1x100000.size a ≤ S36x100000.size a) (r : S100000.Idx) :
    (srcRow (Memref.whole main_v17_scv) off inb).view.read (Elt F) ft r = ft (tIx (off 0) (off 1 + (r 0).val)) := by
  have e1 : (srcRow (Memref.whole main_v17_scv) off inb).view.emb r
      = (Rect.unit (s := S36x100000) off S1x100000.size inb).emb (Shape.reshapeEquiv squeezes_S1x100000_S100000.numel_eq r) := rfl
  rw [View.read_apply]
  show ft ((srcRow (Memref.whole main_v17_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 18 through its row view: entry `(off 0, off 1 + r)` of the table. -/
theorem src_read_18 (d : Dev nD) (c : Fin τ.nSC) (s : Fin τ.nSub) (ft : Buf (Elt F) ((Memref.whole main_v18_scv : Memref sig .scVector .hbm S36x100000 .f32).view.loc (V d c s)))
    (off : Fin 2 → Nat) (inb : ∀ a, off a + S1x100000.size a ≤ S36x100000.size a) (r : S100000.Idx) :
    (srcRow (Memref.whole main_v18_scv) off inb).view.read (Elt F) ft r = ft (tIx (off 0) (off 1 + (r 0).val)) := by
  have e1 : (srcRow (Memref.whole main_v18_scv) off inb).view.emb r
      = (Rect.unit (s := S36x100000) off S1x100000.size inb).emb (Shape.reshapeEquiv squeezes_S1x100000_S100000.numel_eq r) := rfl
  rw [View.read_apply]
  show ft ((srcRow (Memref.whole main_v18_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 19 through its row view: entry `(off 0, off 1 + r)` of the table. -/
theorem src_read_19 (d : Dev nD) (c : Fin τ.nSC) (s : Fin τ.nSub) (ft : Buf (Elt F) ((Memref.whole main_v19_scv : Memref sig .scVector .hbm S36x100000 .f32).view.loc (V d c s)))
    (off : Fin 2 → Nat) (inb : ∀ a, off a + S1x100000.size a ≤ S36x100000.size a) (r : S100000.Idx) :
    (srcRow (Memref.whole main_v19_scv) off inb).view.read (Elt F) ft r = ft (tIx (off 0) (off 1 + (r 0).val)) := by
  have e1 : (srcRow (Memref.whole main_v19_scv) off inb).view.emb r
      = (Rect.unit (s := S36x100000) off S1x100000.size inb).emb (Shape.reshapeEquiv squeezes_S1x100000_S100000.numel_eq r) := rfl
  rw [View.read_apply]
  show ft ((srcRow (Memref.whole main_v19_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 20 through its row view: entry `(off 0, off 1 + r)` of the table. -/
theorem src_read_20 (d : Dev nD) (c : Fin τ.nSC) (s : Fin τ.nSub) (ft : Buf (Elt F) ((Memref.whole main_v20_scv : Memref sig .scVector .hbm S36x100000 .f32).view.loc (V d c s)))
    (off : Fin 2 → Nat) (inb : ∀ a, off a + S1x100000.size a ≤ S36x100000.size a) (r : S100000.Idx) :
    (srcRow (Memref.whole main_v20_scv) off inb).view.read (Elt F) ft r = ft (tIx (off 0) (off 1 + (r 0).val)) := by
  have e1 : (srcRow (Memref.whole main_v20_scv) off inb).view.emb r
      = (Rect.unit (s := S36x100000) off S1x100000.size inb).emb (Shape.reshapeEquiv squeezes_S1x100000_S100000.numel_eq r) := rfl
  rw [View.read_apply]
  show ft ((srcRow (Memref.whole main_v20_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 21 through its row view: entry `(off 0, off 1 + r)` of the table. -/
theorem src_read_21 (d : Dev nD) (c : Fin τ.nSC) (s : Fin τ.nSub) (ft : Buf (Elt F) ((Memref.whole main_v21_scv : Memref sig .scVector .hbm S36x100000 .f32).view.loc (V d c s)))
    (off : Fin 2 → Nat) (inb : ∀ a, off a + S1x100000.size a ≤ S36x100000.size a) (r : S100000.Idx) :
    (srcRow (Memref.whole main_v21_scv) off inb).view.read (Elt F) ft r = ft (tIx (off 0) (off 1 + (r 0).val)) := by
  have e1 : (srcRow (Memref.whole main_v21_scv) off inb).view.emb r
      = (Rect.unit (s := S36x100000) off S1x100000.size inb).emb (Shape.reshapeEquiv squeezes_S1x100000_S100000.numel_eq r) := rfl
  rw [View.read_apply]
  show ft ((srcRow (Memref.whole main_v21_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 22 through its row view: entry `(off 0, off 1 + r)` of the table. -/
theorem src_read_22 (d : Dev nD) (c : Fin τ.nSC) (s : Fin τ.nSub) (ft : Buf (Elt F) ((Memref.whole main_v22_scv : Memref sig .scVector .hbm S36x100000 .f32).view.loc (V d c s)))
    (off : Fin 2 → Nat) (inb : ∀ a, off a + S1x100000.size a ≤ S36x100000.size a) (r : S100000.Idx) :
    (srcRow (Memref.whole main_v22_scv) off inb).view.read (Elt F) ft r = ft (tIx (off 0) (off 1 + (r 0).val)) := by
  have e1 : (srcRow (Memref.whole main_v22_scv) off inb).view.emb r
      = (Rect.unit (s := S36x100000) off S1x100000.size inb).emb (Shape.reshapeEquiv squeezes_S1x100000_S100000.numel_eq r) := rfl
  rw [View.read_apply]
  show ft ((srcRow (Memref.whole main_v22_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 23 through its row view: entry `(off 0, off 1 + r)` of the table. -/
theorem src_read_23 (d : Dev nD) (c : Fin τ.nSC) (s : Fin τ.nSub) (ft : Buf (Elt F) ((Memref.whole main_v23_scv : Memref sig .scVector .hbm S36x100000 .f32).view.loc (V d c s)))
    (off : Fin 2 → Nat) (inb : ∀ a, off a + S1x100000.size a ≤ S36x100000.size a) (r : S100000.Idx) :
    (srcRow (Memref.whole main_v23_scv) off inb).view.read (Elt F) ft r = ft (tIx (off 0) (off 1 + (r 0).val)) := by
  have e1 : (srcRow (Memref.whole main_v23_scv) off inb).view.emb r
      = (Rect.unit (s := S36x100000) off S1x100000.size inb).emb (Shape.reshapeEquiv squeezes_S1x100000_S100000.numel_eq r) := rfl
  rw [View.read_apply]
  show ft ((srcRow (Memref.whole main_v23_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 24 through its row view: entry `(off 0, off 1 + r)` of the table. -/
theorem src_read_24 (d : Dev nD) (c : Fin τ.nSC) (s : Fin τ.nSub) (ft : Buf (Elt F) ((Memref.whole main_v24_scv : Memref sig .scVector .hbm S36x100000 .f32).view.loc (V d c s)))
    (off : Fin 2 → Nat) (inb : ∀ a, off a + S1x100000.size a ≤ S36x100000.size a) (r : S100000.Idx) :
    (srcRow (Memref.whole main_v24_scv) off inb).view.read (Elt F) ft r = ft (tIx (off 0) (off 1 + (r 0).val)) := by
  have e1 : (srcRow (Memref.whole main_v24_scv) off inb).view.emb r
      = (Rect.unit (s := S36x100000) off S1x100000.size inb).emb (Shape.reshapeEquiv squeezes_S1x100000_S100000.numel_eq r) := rfl
  rw [View.read_apply]
  show ft ((srcRow (Memref.whole main_v24_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 25 through its row view: entry `(off 0, off 1 + r)` of the table. -/
theorem src_read_25 (d : Dev nD) (c : Fin τ.nSC) (s : Fin τ.nSub) (ft : Buf (Elt F) ((Memref.whole main_v25_scv : Memref sig .scVector .hbm S36x100000 .f32).view.loc (V d c s)))
    (off : Fin 2 → Nat) (inb : ∀ a, off a + S1x100000.size a ≤ S36x100000.size a) (r : S100000.Idx) :
    (srcRow (Memref.whole main_v25_scv) off inb).view.read (Elt F) ft r = ft (tIx (off 0) (off 1 + (r 0).val)) := by
  have e1 : (srcRow (Memref.whole main_v25_scv) off inb).view.emb r
      = (Rect.unit (s := S36x100000) off S1x100000.size inb).emb (Shape.reshapeEquiv squeezes_S1x100000_S100000.numel_eq r) := rfl
  rw [View.read_apply]
  show ft ((srcRow (Memref.whole main_v25_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 26 through its row view: entry `(off 0, off 1 + r)` of the table. -/
theorem src_read_26 (d : Dev nD) (c : Fin τ.nSC) (s : Fin τ.nSub) (ft : Buf (Elt F) ((Memref.whole main_v26_scv : Memref sig .scVector .hbm S36x100000 .f32).view.loc (V d c s)))
    (off : Fin 2 → Nat) (inb : ∀ a, off a + S1x100000.size a ≤ S36x100000.size a) (r : S100000.Idx) :
    (srcRow (Memref.whole main_v26_scv) off inb).view.read (Elt F) ft r = ft (tIx (off 0) (off 1 + (r 0).val)) := by
  have e1 : (srcRow (Memref.whole main_v26_scv) off inb).view.emb r
      = (Rect.unit (s := S36x100000) off S1x100000.size inb).emb (Shape.reshapeEquiv squeezes_S1x100000_S100000.numel_eq r) := rfl
  rw [View.read_apply]
  show ft ((srcRow (Memref.whole main_v26_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-! ## The 26 fields' loops -/

/-- Field 0's loop over its rows: the rows `[0 + dlo, 0 + dhi)` of the output array end at `G`. -/
theorem dloop_0 (L : grid0.Coords) (d : Dev nD) (defs : Defs nD τ sig (Elt F) Λ₀)
    (s1 s2 s3 : DmaSems sig S_) (hok : (k0_t1_loop L).OK) (init : BitVec 32)
    (body : Fin (k0_t1_loop L).trips → BitVec 32 → Prog (TpuEff nD τ sig (Elt F) Λ₀ (.scVector ((L 0).castLE hcore0) ((L 1).castLE hsub0))) (BitVec 32))
    (inbT : ∀ k a, k0_off1 L k a + S1x100000.size a ≤ S36x100000.size a)
    (inbA : ∀ k a, k0_off19 L k a + S1x8192.size a ≤ S936x16384.size a)
    (inbB : ∀ k a, k0_off37 L k a + S1x8192.size a ≤ S936x16384.size a)
    (la lb : Fin (k0_t1_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v1_scv : Memref sig .scVector .hbm S36x100000 .f32) oV sRow (Memref.isWhole_whole _) sOch (Memref.isWhole_whole _) s1 s2 s3
        (k0_off1 L k) (inbT k) (k0_off19 L k) (inbA k) (k0_off37 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t1_loop L).trips →
      (∀ y : S8192.Idx, idxA.view.read (Elt F) fa y = fx (ix2 ⟨0, by decide⟩ ⟨(y 0).val, Nat.lt_of_lt_of_le (y 0).isLt (by decide)⟩))
      ∧ (∀ y : S8192.Idx, idxB.view.read (Elt F) fb y = fx (ix2 ⟨0, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v1_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t1_loop L).trips → lo ≤ 0 + dlo (wid L) 0) (hhi : 0 < (k0_t1_loop L).trips → 0 + dlo (wid L) 0 + (k0_t1_loop L).trips ≤ hi)
    (G g0 : Buf (Elt F) (oV.view.loc (V d ((L 0).castLE hcore0) ((L 1).castLE hsub0))))
    (hG : ∀ x : S936x16384.Idx, 0 + dlo (wid L) 0 ≤ (x 0).val → (x 0).val < 0 + dlo (wid L) 0 + (k0_t1_loop L).trips →
      G x = ft (tIx (x 0).val (fx (ix2 ⟨0, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v1_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (0 + dlo (wid L) 0) 0 init
        ∗ (∀ acc, rowsInv (F := F) ((L 0).castLE hcore0) ((L 1).castLE hsub0) d (Memref.whole main_v1_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (0 + dlo (wid L) 0) (k0_t1_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t1_loop L) hok init body >>= kk) Q := by
  have htr := t1_trips L
  have h1 := dlo_le_dhi (wid L) 0
  have h2 := dhi_le (wid L) 0
  exact field_loop (F := F) ((L 0).castLE hcore0) ((L 1).castLE hsub0) defs d (Memref.whole main_v1_scv : Memref sig .scVector .hbm S36x100000 .f32) (Memref.isWhole_whole _) s1 s2 s3 (k0_t1_loop L) hok init body
    (k0_off1 L) inbT (k0_off19 L) inbA (k0_off37 L) inbB la lb hbody idxA idxB fa fb (fun b => fx (ix2 ⟨0, by decide⟩ b)) hla hlb hidx
    O W0 q ft ft (src_read_1 (F := F) d ((L 0).castLE hcore0) ((L 1).castLE hsub0) ft) Tset lo hi hT G g0 0 (dlo (wid L) 0) (0 + dlo (wid L) 0)
    rfl (by decide) (by omega) hlo hhi (off1_eq L) (off19_eq L) (off37_eq L) hG kk Q

/-- Field 1's loop over its rows: the rows `[36 + dlo, 36 + dhi)` of the output array end at `G`. -/
theorem dloop_1 (L : grid0.Coords) (d : Dev nD) (defs : Defs nD τ sig (Elt F) Λ₀)
    (s1 s2 s3 : DmaSems sig S_) (hok : (k0_t7_loop L).OK) (init : BitVec 32)
    (body : Fin (k0_t7_loop L).trips → BitVec 32 → Prog (TpuEff nD τ sig (Elt F) Λ₀ (.scVector ((L 0).castLE hcore0) ((L 1).castLE hsub0))) (BitVec 32))
    (inbT : ∀ k a, k0_off75 L k a + S1x100000.size a ≤ S36x100000.size a)
    (inbA : ∀ k a, k0_off93 L k a + S1x8192.size a ≤ S936x16384.size a)
    (inbB : ∀ k a, k0_off111 L k a + S1x8192.size a ≤ S936x16384.size a)
    (la lb : Fin (k0_t7_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v2_scv : Memref sig .scVector .hbm S36x100000 .f32) oV sRow (Memref.isWhole_whole _) sOch (Memref.isWhole_whole _) s1 s2 s3
        (k0_off75 L k) (inbT k) (k0_off93 L k) (inbA k) (k0_off111 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t7_loop L).trips →
      (∀ y : S8192.Idx, idxA.view.read (Elt F) fa y = fx (ix2 ⟨1, by decide⟩ ⟨(y 0).val, Nat.lt_of_lt_of_le (y 0).isLt (by decide)⟩))
      ∧ (∀ y : S8192.Idx, idxB.view.read (Elt F) fb y = fx (ix2 ⟨1, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v2_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t7_loop L).trips → lo ≤ 36 + dlo (wid L) 1) (hhi : 0 < (k0_t7_loop L).trips → 36 + dlo (wid L) 1 + (k0_t7_loop L).trips ≤ hi)
    (G g0 : Buf (Elt F) (oV.view.loc (V d ((L 0).castLE hcore0) ((L 1).castLE hsub0))))
    (hG : ∀ x : S936x16384.Idx, 36 + dlo (wid L) 1 ≤ (x 0).val → (x 0).val < 36 + dlo (wid L) 1 + (k0_t7_loop L).trips →
      G x = ft (tIx (x 0).val (fx (ix2 ⟨1, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v2_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (36 + dlo (wid L) 1) 0 init
        ∗ (∀ acc, rowsInv (F := F) ((L 0).castLE hcore0) ((L 1).castLE hsub0) d (Memref.whole main_v2_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (36 + dlo (wid L) 1) (k0_t7_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t7_loop L) hok init body >>= kk) Q := by
  have htr := t7_trips L
  have h1 := dlo_le_dhi (wid L) 1
  have h2 := dhi_le (wid L) 1
  exact field_loop (F := F) ((L 0).castLE hcore0) ((L 1).castLE hsub0) defs d (Memref.whole main_v2_scv : Memref sig .scVector .hbm S36x100000 .f32) (Memref.isWhole_whole _) s1 s2 s3 (k0_t7_loop L) hok init body
    (k0_off75 L) inbT (k0_off93 L) inbA (k0_off111 L) inbB la lb hbody idxA idxB fa fb (fun b => fx (ix2 ⟨1, by decide⟩ b)) hla hlb hidx
    O W0 q ft ft (src_read_2 (F := F) d ((L 0).castLE hcore0) ((L 1).castLE hsub0) ft) Tset lo hi hT G g0 36 (dlo (wid L) 1) (36 + dlo (wid L) 1)
    rfl (by decide) (by omega) hlo hhi (off75_eq L) (off93_eq L) (off111_eq L) hG kk Q

/-- Field 2's loop over its rows: the rows `[72 + dlo, 72 + dhi)` of the output array end at `G`. -/
theorem dloop_2 (L : grid0.Coords) (d : Dev nD) (defs : Defs nD τ sig (Elt F) Λ₀)
    (s1 s2 s3 : DmaSems sig S_) (hok : (k0_t13_loop L).OK) (init : BitVec 32)
    (body : Fin (k0_t13_loop L).trips → BitVec 32 → Prog (TpuEff nD τ sig (Elt F) Λ₀ (.scVector ((L 0).castLE hcore0) ((L 1).castLE hsub0))) (BitVec 32))
    (inbT : ∀ k a, k0_off149 L k a + S1x100000.size a ≤ S36x100000.size a)
    (inbA : ∀ k a, k0_off167 L k a + S1x8192.size a ≤ S936x16384.size a)
    (inbB : ∀ k a, k0_off185 L k a + S1x8192.size a ≤ S936x16384.size a)
    (la lb : Fin (k0_t13_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v3_scv : Memref sig .scVector .hbm S36x100000 .f32) oV sRow (Memref.isWhole_whole _) sOch (Memref.isWhole_whole _) s1 s2 s3
        (k0_off149 L k) (inbT k) (k0_off167 L k) (inbA k) (k0_off185 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t13_loop L).trips →
      (∀ y : S8192.Idx, idxA.view.read (Elt F) fa y = fx (ix2 ⟨2, by decide⟩ ⟨(y 0).val, Nat.lt_of_lt_of_le (y 0).isLt (by decide)⟩))
      ∧ (∀ y : S8192.Idx, idxB.view.read (Elt F) fb y = fx (ix2 ⟨2, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v3_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t13_loop L).trips → lo ≤ 72 + dlo (wid L) 2) (hhi : 0 < (k0_t13_loop L).trips → 72 + dlo (wid L) 2 + (k0_t13_loop L).trips ≤ hi)
    (G g0 : Buf (Elt F) (oV.view.loc (V d ((L 0).castLE hcore0) ((L 1).castLE hsub0))))
    (hG : ∀ x : S936x16384.Idx, 72 + dlo (wid L) 2 ≤ (x 0).val → (x 0).val < 72 + dlo (wid L) 2 + (k0_t13_loop L).trips →
      G x = ft (tIx (x 0).val (fx (ix2 ⟨2, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v3_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (72 + dlo (wid L) 2) 0 init
        ∗ (∀ acc, rowsInv (F := F) ((L 0).castLE hcore0) ((L 1).castLE hsub0) d (Memref.whole main_v3_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (72 + dlo (wid L) 2) (k0_t13_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t13_loop L) hok init body >>= kk) Q := by
  have htr := t13_trips L
  have h1 := dlo_le_dhi (wid L) 2
  have h2 := dhi_le (wid L) 2
  exact field_loop (F := F) ((L 0).castLE hcore0) ((L 1).castLE hsub0) defs d (Memref.whole main_v3_scv : Memref sig .scVector .hbm S36x100000 .f32) (Memref.isWhole_whole _) s1 s2 s3 (k0_t13_loop L) hok init body
    (k0_off149 L) inbT (k0_off167 L) inbA (k0_off185 L) inbB la lb hbody idxA idxB fa fb (fun b => fx (ix2 ⟨2, by decide⟩ b)) hla hlb hidx
    O W0 q ft ft (src_read_3 (F := F) d ((L 0).castLE hcore0) ((L 1).castLE hsub0) ft) Tset lo hi hT G g0 72 (dlo (wid L) 2) (72 + dlo (wid L) 2)
    rfl (by decide) (by omega) hlo hhi (off149_eq L) (off167_eq L) (off185_eq L) hG kk Q

/-- Field 3's loop over its rows: the rows `[108 + dlo, 108 + dhi)` of the output array end at `G`. -/
theorem dloop_3 (L : grid0.Coords) (d : Dev nD) (defs : Defs nD τ sig (Elt F) Λ₀)
    (s1 s2 s3 : DmaSems sig S_) (hok : (k0_t19_loop L).OK) (init : BitVec 32)
    (body : Fin (k0_t19_loop L).trips → BitVec 32 → Prog (TpuEff nD τ sig (Elt F) Λ₀ (.scVector ((L 0).castLE hcore0) ((L 1).castLE hsub0))) (BitVec 32))
    (inbT : ∀ k a, k0_off223 L k a + S1x100000.size a ≤ S36x100000.size a)
    (inbA : ∀ k a, k0_off241 L k a + S1x8192.size a ≤ S936x16384.size a)
    (inbB : ∀ k a, k0_off259 L k a + S1x8192.size a ≤ S936x16384.size a)
    (la lb : Fin (k0_t19_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v4_scv : Memref sig .scVector .hbm S36x100000 .f32) oV sRow (Memref.isWhole_whole _) sOch (Memref.isWhole_whole _) s1 s2 s3
        (k0_off223 L k) (inbT k) (k0_off241 L k) (inbA k) (k0_off259 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t19_loop L).trips →
      (∀ y : S8192.Idx, idxA.view.read (Elt F) fa y = fx (ix2 ⟨3, by decide⟩ ⟨(y 0).val, Nat.lt_of_lt_of_le (y 0).isLt (by decide)⟩))
      ∧ (∀ y : S8192.Idx, idxB.view.read (Elt F) fb y = fx (ix2 ⟨3, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v4_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t19_loop L).trips → lo ≤ 108 + dlo (wid L) 3) (hhi : 0 < (k0_t19_loop L).trips → 108 + dlo (wid L) 3 + (k0_t19_loop L).trips ≤ hi)
    (G g0 : Buf (Elt F) (oV.view.loc (V d ((L 0).castLE hcore0) ((L 1).castLE hsub0))))
    (hG : ∀ x : S936x16384.Idx, 108 + dlo (wid L) 3 ≤ (x 0).val → (x 0).val < 108 + dlo (wid L) 3 + (k0_t19_loop L).trips →
      G x = ft (tIx (x 0).val (fx (ix2 ⟨3, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v4_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (108 + dlo (wid L) 3) 0 init
        ∗ (∀ acc, rowsInv (F := F) ((L 0).castLE hcore0) ((L 1).castLE hsub0) d (Memref.whole main_v4_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (108 + dlo (wid L) 3) (k0_t19_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t19_loop L) hok init body >>= kk) Q := by
  have htr := t19_trips L
  have h1 := dlo_le_dhi (wid L) 3
  have h2 := dhi_le (wid L) 3
  exact field_loop (F := F) ((L 0).castLE hcore0) ((L 1).castLE hsub0) defs d (Memref.whole main_v4_scv : Memref sig .scVector .hbm S36x100000 .f32) (Memref.isWhole_whole _) s1 s2 s3 (k0_t19_loop L) hok init body
    (k0_off223 L) inbT (k0_off241 L) inbA (k0_off259 L) inbB la lb hbody idxA idxB fa fb (fun b => fx (ix2 ⟨3, by decide⟩ b)) hla hlb hidx
    O W0 q ft ft (src_read_4 (F := F) d ((L 0).castLE hcore0) ((L 1).castLE hsub0) ft) Tset lo hi hT G g0 108 (dlo (wid L) 3) (108 + dlo (wid L) 3)
    rfl (by decide) (by omega) hlo hhi (off223_eq L) (off241_eq L) (off259_eq L) hG kk Q

/-- Field 4's loop over its rows: the rows `[144 + dlo, 144 + dhi)` of the output array end at `G`. -/
theorem dloop_4 (L : grid0.Coords) (d : Dev nD) (defs : Defs nD τ sig (Elt F) Λ₀)
    (s1 s2 s3 : DmaSems sig S_) (hok : (k0_t25_loop L).OK) (init : BitVec 32)
    (body : Fin (k0_t25_loop L).trips → BitVec 32 → Prog (TpuEff nD τ sig (Elt F) Λ₀ (.scVector ((L 0).castLE hcore0) ((L 1).castLE hsub0))) (BitVec 32))
    (inbT : ∀ k a, k0_off297 L k a + S1x100000.size a ≤ S36x100000.size a)
    (inbA : ∀ k a, k0_off315 L k a + S1x8192.size a ≤ S936x16384.size a)
    (inbB : ∀ k a, k0_off333 L k a + S1x8192.size a ≤ S936x16384.size a)
    (la lb : Fin (k0_t25_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v5_scv : Memref sig .scVector .hbm S36x100000 .f32) oV sRow (Memref.isWhole_whole _) sOch (Memref.isWhole_whole _) s1 s2 s3
        (k0_off297 L k) (inbT k) (k0_off315 L k) (inbA k) (k0_off333 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t25_loop L).trips →
      (∀ y : S8192.Idx, idxA.view.read (Elt F) fa y = fx (ix2 ⟨4, by decide⟩ ⟨(y 0).val, Nat.lt_of_lt_of_le (y 0).isLt (by decide)⟩))
      ∧ (∀ y : S8192.Idx, idxB.view.read (Elt F) fb y = fx (ix2 ⟨4, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v5_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t25_loop L).trips → lo ≤ 144 + dlo (wid L) 4) (hhi : 0 < (k0_t25_loop L).trips → 144 + dlo (wid L) 4 + (k0_t25_loop L).trips ≤ hi)
    (G g0 : Buf (Elt F) (oV.view.loc (V d ((L 0).castLE hcore0) ((L 1).castLE hsub0))))
    (hG : ∀ x : S936x16384.Idx, 144 + dlo (wid L) 4 ≤ (x 0).val → (x 0).val < 144 + dlo (wid L) 4 + (k0_t25_loop L).trips →
      G x = ft (tIx (x 0).val (fx (ix2 ⟨4, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v5_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (144 + dlo (wid L) 4) 0 init
        ∗ (∀ acc, rowsInv (F := F) ((L 0).castLE hcore0) ((L 1).castLE hsub0) d (Memref.whole main_v5_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (144 + dlo (wid L) 4) (k0_t25_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t25_loop L) hok init body >>= kk) Q := by
  have htr := t25_trips L
  have h1 := dlo_le_dhi (wid L) 4
  have h2 := dhi_le (wid L) 4
  exact field_loop (F := F) ((L 0).castLE hcore0) ((L 1).castLE hsub0) defs d (Memref.whole main_v5_scv : Memref sig .scVector .hbm S36x100000 .f32) (Memref.isWhole_whole _) s1 s2 s3 (k0_t25_loop L) hok init body
    (k0_off297 L) inbT (k0_off315 L) inbA (k0_off333 L) inbB la lb hbody idxA idxB fa fb (fun b => fx (ix2 ⟨4, by decide⟩ b)) hla hlb hidx
    O W0 q ft ft (src_read_5 (F := F) d ((L 0).castLE hcore0) ((L 1).castLE hsub0) ft) Tset lo hi hT G g0 144 (dlo (wid L) 4) (144 + dlo (wid L) 4)
    rfl (by decide) (by omega) hlo hhi (off297_eq L) (off315_eq L) (off333_eq L) hG kk Q

/-- Field 5's loop over its rows: the rows `[180 + dlo, 180 + dhi)` of the output array end at `G`. -/
theorem dloop_5 (L : grid0.Coords) (d : Dev nD) (defs : Defs nD τ sig (Elt F) Λ₀)
    (s1 s2 s3 : DmaSems sig S_) (hok : (k0_t31_loop L).OK) (init : BitVec 32)
    (body : Fin (k0_t31_loop L).trips → BitVec 32 → Prog (TpuEff nD τ sig (Elt F) Λ₀ (.scVector ((L 0).castLE hcore0) ((L 1).castLE hsub0))) (BitVec 32))
    (inbT : ∀ k a, k0_off371 L k a + S1x100000.size a ≤ S36x100000.size a)
    (inbA : ∀ k a, k0_off389 L k a + S1x8192.size a ≤ S936x16384.size a)
    (inbB : ∀ k a, k0_off407 L k a + S1x8192.size a ≤ S936x16384.size a)
    (la lb : Fin (k0_t31_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v6_scv : Memref sig .scVector .hbm S36x100000 .f32) oV sRow (Memref.isWhole_whole _) sOch (Memref.isWhole_whole _) s1 s2 s3
        (k0_off371 L k) (inbT k) (k0_off389 L k) (inbA k) (k0_off407 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t31_loop L).trips →
      (∀ y : S8192.Idx, idxA.view.read (Elt F) fa y = fx (ix2 ⟨5, by decide⟩ ⟨(y 0).val, Nat.lt_of_lt_of_le (y 0).isLt (by decide)⟩))
      ∧ (∀ y : S8192.Idx, idxB.view.read (Elt F) fb y = fx (ix2 ⟨5, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v6_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t31_loop L).trips → lo ≤ 180 + dlo (wid L) 5) (hhi : 0 < (k0_t31_loop L).trips → 180 + dlo (wid L) 5 + (k0_t31_loop L).trips ≤ hi)
    (G g0 : Buf (Elt F) (oV.view.loc (V d ((L 0).castLE hcore0) ((L 1).castLE hsub0))))
    (hG : ∀ x : S936x16384.Idx, 180 + dlo (wid L) 5 ≤ (x 0).val → (x 0).val < 180 + dlo (wid L) 5 + (k0_t31_loop L).trips →
      G x = ft (tIx (x 0).val (fx (ix2 ⟨5, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v6_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (180 + dlo (wid L) 5) 0 init
        ∗ (∀ acc, rowsInv (F := F) ((L 0).castLE hcore0) ((L 1).castLE hsub0) d (Memref.whole main_v6_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (180 + dlo (wid L) 5) (k0_t31_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t31_loop L) hok init body >>= kk) Q := by
  have htr := t31_trips L
  have h1 := dlo_le_dhi (wid L) 5
  have h2 := dhi_le (wid L) 5
  exact field_loop (F := F) ((L 0).castLE hcore0) ((L 1).castLE hsub0) defs d (Memref.whole main_v6_scv : Memref sig .scVector .hbm S36x100000 .f32) (Memref.isWhole_whole _) s1 s2 s3 (k0_t31_loop L) hok init body
    (k0_off371 L) inbT (k0_off389 L) inbA (k0_off407 L) inbB la lb hbody idxA idxB fa fb (fun b => fx (ix2 ⟨5, by decide⟩ b)) hla hlb hidx
    O W0 q ft ft (src_read_6 (F := F) d ((L 0).castLE hcore0) ((L 1).castLE hsub0) ft) Tset lo hi hT G g0 180 (dlo (wid L) 5) (180 + dlo (wid L) 5)
    rfl (by decide) (by omega) hlo hhi (off371_eq L) (off389_eq L) (off407_eq L) hG kk Q

/-- Field 6's loop over its rows: the rows `[216 + dlo, 216 + dhi)` of the output array end at `G`. -/
theorem dloop_6 (L : grid0.Coords) (d : Dev nD) (defs : Defs nD τ sig (Elt F) Λ₀)
    (s1 s2 s3 : DmaSems sig S_) (hok : (k0_t37_loop L).OK) (init : BitVec 32)
    (body : Fin (k0_t37_loop L).trips → BitVec 32 → Prog (TpuEff nD τ sig (Elt F) Λ₀ (.scVector ((L 0).castLE hcore0) ((L 1).castLE hsub0))) (BitVec 32))
    (inbT : ∀ k a, k0_off445 L k a + S1x100000.size a ≤ S36x100000.size a)
    (inbA : ∀ k a, k0_off463 L k a + S1x8192.size a ≤ S936x16384.size a)
    (inbB : ∀ k a, k0_off481 L k a + S1x8192.size a ≤ S936x16384.size a)
    (la lb : Fin (k0_t37_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v7_scv : Memref sig .scVector .hbm S36x100000 .f32) oV sRow (Memref.isWhole_whole _) sOch (Memref.isWhole_whole _) s1 s2 s3
        (k0_off445 L k) (inbT k) (k0_off463 L k) (inbA k) (k0_off481 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t37_loop L).trips →
      (∀ y : S8192.Idx, idxA.view.read (Elt F) fa y = fx (ix2 ⟨6, by decide⟩ ⟨(y 0).val, Nat.lt_of_lt_of_le (y 0).isLt (by decide)⟩))
      ∧ (∀ y : S8192.Idx, idxB.view.read (Elt F) fb y = fx (ix2 ⟨6, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v7_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t37_loop L).trips → lo ≤ 216 + dlo (wid L) 6) (hhi : 0 < (k0_t37_loop L).trips → 216 + dlo (wid L) 6 + (k0_t37_loop L).trips ≤ hi)
    (G g0 : Buf (Elt F) (oV.view.loc (V d ((L 0).castLE hcore0) ((L 1).castLE hsub0))))
    (hG : ∀ x : S936x16384.Idx, 216 + dlo (wid L) 6 ≤ (x 0).val → (x 0).val < 216 + dlo (wid L) 6 + (k0_t37_loop L).trips →
      G x = ft (tIx (x 0).val (fx (ix2 ⟨6, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v7_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (216 + dlo (wid L) 6) 0 init
        ∗ (∀ acc, rowsInv (F := F) ((L 0).castLE hcore0) ((L 1).castLE hsub0) d (Memref.whole main_v7_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (216 + dlo (wid L) 6) (k0_t37_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t37_loop L) hok init body >>= kk) Q := by
  have htr := t37_trips L
  have h1 := dlo_le_dhi (wid L) 6
  have h2 := dhi_le (wid L) 6
  exact field_loop (F := F) ((L 0).castLE hcore0) ((L 1).castLE hsub0) defs d (Memref.whole main_v7_scv : Memref sig .scVector .hbm S36x100000 .f32) (Memref.isWhole_whole _) s1 s2 s3 (k0_t37_loop L) hok init body
    (k0_off445 L) inbT (k0_off463 L) inbA (k0_off481 L) inbB la lb hbody idxA idxB fa fb (fun b => fx (ix2 ⟨6, by decide⟩ b)) hla hlb hidx
    O W0 q ft ft (src_read_7 (F := F) d ((L 0).castLE hcore0) ((L 1).castLE hsub0) ft) Tset lo hi hT G g0 216 (dlo (wid L) 6) (216 + dlo (wid L) 6)
    rfl (by decide) (by omega) hlo hhi (off445_eq L) (off463_eq L) (off481_eq L) hG kk Q

/-- Field 7's loop over its rows: the rows `[252 + dlo, 252 + dhi)` of the output array end at `G`. -/
theorem dloop_7 (L : grid0.Coords) (d : Dev nD) (defs : Defs nD τ sig (Elt F) Λ₀)
    (s1 s2 s3 : DmaSems sig S_) (hok : (k0_t43_loop L).OK) (init : BitVec 32)
    (body : Fin (k0_t43_loop L).trips → BitVec 32 → Prog (TpuEff nD τ sig (Elt F) Λ₀ (.scVector ((L 0).castLE hcore0) ((L 1).castLE hsub0))) (BitVec 32))
    (inbT : ∀ k a, k0_off519 L k a + S1x100000.size a ≤ S36x100000.size a)
    (inbA : ∀ k a, k0_off537 L k a + S1x8192.size a ≤ S936x16384.size a)
    (inbB : ∀ k a, k0_off555 L k a + S1x8192.size a ≤ S936x16384.size a)
    (la lb : Fin (k0_t43_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v8_scv : Memref sig .scVector .hbm S36x100000 .f32) oV sRow (Memref.isWhole_whole _) sOch (Memref.isWhole_whole _) s1 s2 s3
        (k0_off519 L k) (inbT k) (k0_off537 L k) (inbA k) (k0_off555 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t43_loop L).trips →
      (∀ y : S8192.Idx, idxA.view.read (Elt F) fa y = fx (ix2 ⟨7, by decide⟩ ⟨(y 0).val, Nat.lt_of_lt_of_le (y 0).isLt (by decide)⟩))
      ∧ (∀ y : S8192.Idx, idxB.view.read (Elt F) fb y = fx (ix2 ⟨7, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v8_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t43_loop L).trips → lo ≤ 252 + dlo (wid L) 7) (hhi : 0 < (k0_t43_loop L).trips → 252 + dlo (wid L) 7 + (k0_t43_loop L).trips ≤ hi)
    (G g0 : Buf (Elt F) (oV.view.loc (V d ((L 0).castLE hcore0) ((L 1).castLE hsub0))))
    (hG : ∀ x : S936x16384.Idx, 252 + dlo (wid L) 7 ≤ (x 0).val → (x 0).val < 252 + dlo (wid L) 7 + (k0_t43_loop L).trips →
      G x = ft (tIx (x 0).val (fx (ix2 ⟨7, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v8_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (252 + dlo (wid L) 7) 0 init
        ∗ (∀ acc, rowsInv (F := F) ((L 0).castLE hcore0) ((L 1).castLE hsub0) d (Memref.whole main_v8_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (252 + dlo (wid L) 7) (k0_t43_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t43_loop L) hok init body >>= kk) Q := by
  have htr := t43_trips L
  have h1 := dlo_le_dhi (wid L) 7
  have h2 := dhi_le (wid L) 7
  exact field_loop (F := F) ((L 0).castLE hcore0) ((L 1).castLE hsub0) defs d (Memref.whole main_v8_scv : Memref sig .scVector .hbm S36x100000 .f32) (Memref.isWhole_whole _) s1 s2 s3 (k0_t43_loop L) hok init body
    (k0_off519 L) inbT (k0_off537 L) inbA (k0_off555 L) inbB la lb hbody idxA idxB fa fb (fun b => fx (ix2 ⟨7, by decide⟩ b)) hla hlb hidx
    O W0 q ft ft (src_read_8 (F := F) d ((L 0).castLE hcore0) ((L 1).castLE hsub0) ft) Tset lo hi hT G g0 252 (dlo (wid L) 7) (252 + dlo (wid L) 7)
    rfl (by decide) (by omega) hlo hhi (off519_eq L) (off537_eq L) (off555_eq L) hG kk Q

/-- Field 8's loop over its rows: the rows `[288 + dlo, 288 + dhi)` of the output array end at `G`. -/
theorem dloop_8 (L : grid0.Coords) (d : Dev nD) (defs : Defs nD τ sig (Elt F) Λ₀)
    (s1 s2 s3 : DmaSems sig S_) (hok : (k0_t49_loop L).OK) (init : BitVec 32)
    (body : Fin (k0_t49_loop L).trips → BitVec 32 → Prog (TpuEff nD τ sig (Elt F) Λ₀ (.scVector ((L 0).castLE hcore0) ((L 1).castLE hsub0))) (BitVec 32))
    (inbT : ∀ k a, k0_off593 L k a + S1x100000.size a ≤ S36x100000.size a)
    (inbA : ∀ k a, k0_off611 L k a + S1x8192.size a ≤ S936x16384.size a)
    (inbB : ∀ k a, k0_off629 L k a + S1x8192.size a ≤ S936x16384.size a)
    (la lb : Fin (k0_t49_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v9_scv : Memref sig .scVector .hbm S36x100000 .f32) oV sRow (Memref.isWhole_whole _) sOch (Memref.isWhole_whole _) s1 s2 s3
        (k0_off593 L k) (inbT k) (k0_off611 L k) (inbA k) (k0_off629 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t49_loop L).trips →
      (∀ y : S8192.Idx, idxA.view.read (Elt F) fa y = fx (ix2 ⟨8, by decide⟩ ⟨(y 0).val, Nat.lt_of_lt_of_le (y 0).isLt (by decide)⟩))
      ∧ (∀ y : S8192.Idx, idxB.view.read (Elt F) fb y = fx (ix2 ⟨8, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v9_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t49_loop L).trips → lo ≤ 288 + dlo (wid L) 8) (hhi : 0 < (k0_t49_loop L).trips → 288 + dlo (wid L) 8 + (k0_t49_loop L).trips ≤ hi)
    (G g0 : Buf (Elt F) (oV.view.loc (V d ((L 0).castLE hcore0) ((L 1).castLE hsub0))))
    (hG : ∀ x : S936x16384.Idx, 288 + dlo (wid L) 8 ≤ (x 0).val → (x 0).val < 288 + dlo (wid L) 8 + (k0_t49_loop L).trips →
      G x = ft (tIx (x 0).val (fx (ix2 ⟨8, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v9_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (288 + dlo (wid L) 8) 0 init
        ∗ (∀ acc, rowsInv (F := F) ((L 0).castLE hcore0) ((L 1).castLE hsub0) d (Memref.whole main_v9_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (288 + dlo (wid L) 8) (k0_t49_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t49_loop L) hok init body >>= kk) Q := by
  have htr := t49_trips L
  have h1 := dlo_le_dhi (wid L) 8
  have h2 := dhi_le (wid L) 8
  exact field_loop (F := F) ((L 0).castLE hcore0) ((L 1).castLE hsub0) defs d (Memref.whole main_v9_scv : Memref sig .scVector .hbm S36x100000 .f32) (Memref.isWhole_whole _) s1 s2 s3 (k0_t49_loop L) hok init body
    (k0_off593 L) inbT (k0_off611 L) inbA (k0_off629 L) inbB la lb hbody idxA idxB fa fb (fun b => fx (ix2 ⟨8, by decide⟩ b)) hla hlb hidx
    O W0 q ft ft (src_read_9 (F := F) d ((L 0).castLE hcore0) ((L 1).castLE hsub0) ft) Tset lo hi hT G g0 288 (dlo (wid L) 8) (288 + dlo (wid L) 8)
    rfl (by decide) (by omega) hlo hhi (off593_eq L) (off611_eq L) (off629_eq L) hG kk Q

/-- Field 9's loop over its rows: the rows `[324 + dlo, 324 + dhi)` of the output array end at `G`. -/
theorem dloop_9 (L : grid0.Coords) (d : Dev nD) (defs : Defs nD τ sig (Elt F) Λ₀)
    (s1 s2 s3 : DmaSems sig S_) (hok : (k0_t55_loop L).OK) (init : BitVec 32)
    (body : Fin (k0_t55_loop L).trips → BitVec 32 → Prog (TpuEff nD τ sig (Elt F) Λ₀ (.scVector ((L 0).castLE hcore0) ((L 1).castLE hsub0))) (BitVec 32))
    (inbT : ∀ k a, k0_off667 L k a + S1x100000.size a ≤ S36x100000.size a)
    (inbA : ∀ k a, k0_off685 L k a + S1x8192.size a ≤ S936x16384.size a)
    (inbB : ∀ k a, k0_off703 L k a + S1x8192.size a ≤ S936x16384.size a)
    (la lb : Fin (k0_t55_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v10_scv : Memref sig .scVector .hbm S36x100000 .f32) oV sRow (Memref.isWhole_whole _) sOch (Memref.isWhole_whole _) s1 s2 s3
        (k0_off667 L k) (inbT k) (k0_off685 L k) (inbA k) (k0_off703 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t55_loop L).trips →
      (∀ y : S8192.Idx, idxA.view.read (Elt F) fa y = fx (ix2 ⟨9, by decide⟩ ⟨(y 0).val, Nat.lt_of_lt_of_le (y 0).isLt (by decide)⟩))
      ∧ (∀ y : S8192.Idx, idxB.view.read (Elt F) fb y = fx (ix2 ⟨9, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v10_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t55_loop L).trips → lo ≤ 324 + dlo (wid L) 9) (hhi : 0 < (k0_t55_loop L).trips → 324 + dlo (wid L) 9 + (k0_t55_loop L).trips ≤ hi)
    (G g0 : Buf (Elt F) (oV.view.loc (V d ((L 0).castLE hcore0) ((L 1).castLE hsub0))))
    (hG : ∀ x : S936x16384.Idx, 324 + dlo (wid L) 9 ≤ (x 0).val → (x 0).val < 324 + dlo (wid L) 9 + (k0_t55_loop L).trips →
      G x = ft (tIx (x 0).val (fx (ix2 ⟨9, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v10_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (324 + dlo (wid L) 9) 0 init
        ∗ (∀ acc, rowsInv (F := F) ((L 0).castLE hcore0) ((L 1).castLE hsub0) d (Memref.whole main_v10_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (324 + dlo (wid L) 9) (k0_t55_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t55_loop L) hok init body >>= kk) Q := by
  have htr := t55_trips L
  have h1 := dlo_le_dhi (wid L) 9
  have h2 := dhi_le (wid L) 9
  exact field_loop (F := F) ((L 0).castLE hcore0) ((L 1).castLE hsub0) defs d (Memref.whole main_v10_scv : Memref sig .scVector .hbm S36x100000 .f32) (Memref.isWhole_whole _) s1 s2 s3 (k0_t55_loop L) hok init body
    (k0_off667 L) inbT (k0_off685 L) inbA (k0_off703 L) inbB la lb hbody idxA idxB fa fb (fun b => fx (ix2 ⟨9, by decide⟩ b)) hla hlb hidx
    O W0 q ft ft (src_read_10 (F := F) d ((L 0).castLE hcore0) ((L 1).castLE hsub0) ft) Tset lo hi hT G g0 324 (dlo (wid L) 9) (324 + dlo (wid L) 9)
    rfl (by decide) (by omega) hlo hhi (off667_eq L) (off685_eq L) (off703_eq L) hG kk Q

/-- Field 10's loop over its rows: the rows `[360 + dlo, 360 + dhi)` of the output array end at `G`. -/
theorem dloop_10 (L : grid0.Coords) (d : Dev nD) (defs : Defs nD τ sig (Elt F) Λ₀)
    (s1 s2 s3 : DmaSems sig S_) (hok : (k0_t61_loop L).OK) (init : BitVec 32)
    (body : Fin (k0_t61_loop L).trips → BitVec 32 → Prog (TpuEff nD τ sig (Elt F) Λ₀ (.scVector ((L 0).castLE hcore0) ((L 1).castLE hsub0))) (BitVec 32))
    (inbT : ∀ k a, k0_off741 L k a + S1x100000.size a ≤ S36x100000.size a)
    (inbA : ∀ k a, k0_off759 L k a + S1x8192.size a ≤ S936x16384.size a)
    (inbB : ∀ k a, k0_off777 L k a + S1x8192.size a ≤ S936x16384.size a)
    (la lb : Fin (k0_t61_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v11_scv : Memref sig .scVector .hbm S36x100000 .f32) oV sRow (Memref.isWhole_whole _) sOch (Memref.isWhole_whole _) s1 s2 s3
        (k0_off741 L k) (inbT k) (k0_off759 L k) (inbA k) (k0_off777 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t61_loop L).trips →
      (∀ y : S8192.Idx, idxA.view.read (Elt F) fa y = fx (ix2 ⟨10, by decide⟩ ⟨(y 0).val, Nat.lt_of_lt_of_le (y 0).isLt (by decide)⟩))
      ∧ (∀ y : S8192.Idx, idxB.view.read (Elt F) fb y = fx (ix2 ⟨10, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v11_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t61_loop L).trips → lo ≤ 360 + dlo (wid L) 10) (hhi : 0 < (k0_t61_loop L).trips → 360 + dlo (wid L) 10 + (k0_t61_loop L).trips ≤ hi)
    (G g0 : Buf (Elt F) (oV.view.loc (V d ((L 0).castLE hcore0) ((L 1).castLE hsub0))))
    (hG : ∀ x : S936x16384.Idx, 360 + dlo (wid L) 10 ≤ (x 0).val → (x 0).val < 360 + dlo (wid L) 10 + (k0_t61_loop L).trips →
      G x = ft (tIx (x 0).val (fx (ix2 ⟨10, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v11_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (360 + dlo (wid L) 10) 0 init
        ∗ (∀ acc, rowsInv (F := F) ((L 0).castLE hcore0) ((L 1).castLE hsub0) d (Memref.whole main_v11_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (360 + dlo (wid L) 10) (k0_t61_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t61_loop L) hok init body >>= kk) Q := by
  have htr := t61_trips L
  have h1 := dlo_le_dhi (wid L) 10
  have h2 := dhi_le (wid L) 10
  exact field_loop (F := F) ((L 0).castLE hcore0) ((L 1).castLE hsub0) defs d (Memref.whole main_v11_scv : Memref sig .scVector .hbm S36x100000 .f32) (Memref.isWhole_whole _) s1 s2 s3 (k0_t61_loop L) hok init body
    (k0_off741 L) inbT (k0_off759 L) inbA (k0_off777 L) inbB la lb hbody idxA idxB fa fb (fun b => fx (ix2 ⟨10, by decide⟩ b)) hla hlb hidx
    O W0 q ft ft (src_read_11 (F := F) d ((L 0).castLE hcore0) ((L 1).castLE hsub0) ft) Tset lo hi hT G g0 360 (dlo (wid L) 10) (360 + dlo (wid L) 10)
    rfl (by decide) (by omega) hlo hhi (off741_eq L) (off759_eq L) (off777_eq L) hG kk Q

/-- Field 11's loop over its rows: the rows `[396 + dlo, 396 + dhi)` of the output array end at `G`. -/
theorem dloop_11 (L : grid0.Coords) (d : Dev nD) (defs : Defs nD τ sig (Elt F) Λ₀)
    (s1 s2 s3 : DmaSems sig S_) (hok : (k0_t67_loop L).OK) (init : BitVec 32)
    (body : Fin (k0_t67_loop L).trips → BitVec 32 → Prog (TpuEff nD τ sig (Elt F) Λ₀ (.scVector ((L 0).castLE hcore0) ((L 1).castLE hsub0))) (BitVec 32))
    (inbT : ∀ k a, k0_off815 L k a + S1x100000.size a ≤ S36x100000.size a)
    (inbA : ∀ k a, k0_off833 L k a + S1x8192.size a ≤ S936x16384.size a)
    (inbB : ∀ k a, k0_off851 L k a + S1x8192.size a ≤ S936x16384.size a)
    (la lb : Fin (k0_t67_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v12_scv : Memref sig .scVector .hbm S36x100000 .f32) oV sRow (Memref.isWhole_whole _) sOch (Memref.isWhole_whole _) s1 s2 s3
        (k0_off815 L k) (inbT k) (k0_off833 L k) (inbA k) (k0_off851 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t67_loop L).trips →
      (∀ y : S8192.Idx, idxA.view.read (Elt F) fa y = fx (ix2 ⟨11, by decide⟩ ⟨(y 0).val, Nat.lt_of_lt_of_le (y 0).isLt (by decide)⟩))
      ∧ (∀ y : S8192.Idx, idxB.view.read (Elt F) fb y = fx (ix2 ⟨11, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v12_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t67_loop L).trips → lo ≤ 396 + dlo (wid L) 11) (hhi : 0 < (k0_t67_loop L).trips → 396 + dlo (wid L) 11 + (k0_t67_loop L).trips ≤ hi)
    (G g0 : Buf (Elt F) (oV.view.loc (V d ((L 0).castLE hcore0) ((L 1).castLE hsub0))))
    (hG : ∀ x : S936x16384.Idx, 396 + dlo (wid L) 11 ≤ (x 0).val → (x 0).val < 396 + dlo (wid L) 11 + (k0_t67_loop L).trips →
      G x = ft (tIx (x 0).val (fx (ix2 ⟨11, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v12_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (396 + dlo (wid L) 11) 0 init
        ∗ (∀ acc, rowsInv (F := F) ((L 0).castLE hcore0) ((L 1).castLE hsub0) d (Memref.whole main_v12_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (396 + dlo (wid L) 11) (k0_t67_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t67_loop L) hok init body >>= kk) Q := by
  have htr := t67_trips L
  have h1 := dlo_le_dhi (wid L) 11
  have h2 := dhi_le (wid L) 11
  exact field_loop (F := F) ((L 0).castLE hcore0) ((L 1).castLE hsub0) defs d (Memref.whole main_v12_scv : Memref sig .scVector .hbm S36x100000 .f32) (Memref.isWhole_whole _) s1 s2 s3 (k0_t67_loop L) hok init body
    (k0_off815 L) inbT (k0_off833 L) inbA (k0_off851 L) inbB la lb hbody idxA idxB fa fb (fun b => fx (ix2 ⟨11, by decide⟩ b)) hla hlb hidx
    O W0 q ft ft (src_read_12 (F := F) d ((L 0).castLE hcore0) ((L 1).castLE hsub0) ft) Tset lo hi hT G g0 396 (dlo (wid L) 11) (396 + dlo (wid L) 11)
    rfl (by decide) (by omega) hlo hhi (off815_eq L) (off833_eq L) (off851_eq L) hG kk Q

/-- Field 12's loop over its rows: the rows `[432 + dlo, 432 + dhi)` of the output array end at `G`. -/
theorem dloop_12 (L : grid0.Coords) (d : Dev nD) (defs : Defs nD τ sig (Elt F) Λ₀)
    (s1 s2 s3 : DmaSems sig S_) (hok : (k0_t73_loop L).OK) (init : BitVec 32)
    (body : Fin (k0_t73_loop L).trips → BitVec 32 → Prog (TpuEff nD τ sig (Elt F) Λ₀ (.scVector ((L 0).castLE hcore0) ((L 1).castLE hsub0))) (BitVec 32))
    (inbT : ∀ k a, k0_off889 L k a + S1x100000.size a ≤ S36x100000.size a)
    (inbA : ∀ k a, k0_off907 L k a + S1x8192.size a ≤ S936x16384.size a)
    (inbB : ∀ k a, k0_off925 L k a + S1x8192.size a ≤ S936x16384.size a)
    (la lb : Fin (k0_t73_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v13_scv : Memref sig .scVector .hbm S36x100000 .f32) oV sRow (Memref.isWhole_whole _) sOch (Memref.isWhole_whole _) s1 s2 s3
        (k0_off889 L k) (inbT k) (k0_off907 L k) (inbA k) (k0_off925 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t73_loop L).trips →
      (∀ y : S8192.Idx, idxA.view.read (Elt F) fa y = fx (ix2 ⟨12, by decide⟩ ⟨(y 0).val, Nat.lt_of_lt_of_le (y 0).isLt (by decide)⟩))
      ∧ (∀ y : S8192.Idx, idxB.view.read (Elt F) fb y = fx (ix2 ⟨12, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v13_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t73_loop L).trips → lo ≤ 432 + dlo (wid L) 12) (hhi : 0 < (k0_t73_loop L).trips → 432 + dlo (wid L) 12 + (k0_t73_loop L).trips ≤ hi)
    (G g0 : Buf (Elt F) (oV.view.loc (V d ((L 0).castLE hcore0) ((L 1).castLE hsub0))))
    (hG : ∀ x : S936x16384.Idx, 432 + dlo (wid L) 12 ≤ (x 0).val → (x 0).val < 432 + dlo (wid L) 12 + (k0_t73_loop L).trips →
      G x = ft (tIx (x 0).val (fx (ix2 ⟨12, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v13_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (432 + dlo (wid L) 12) 0 init
        ∗ (∀ acc, rowsInv (F := F) ((L 0).castLE hcore0) ((L 1).castLE hsub0) d (Memref.whole main_v13_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (432 + dlo (wid L) 12) (k0_t73_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t73_loop L) hok init body >>= kk) Q := by
  have htr := t73_trips L
  have h1 := dlo_le_dhi (wid L) 12
  have h2 := dhi_le (wid L) 12
  exact field_loop (F := F) ((L 0).castLE hcore0) ((L 1).castLE hsub0) defs d (Memref.whole main_v13_scv : Memref sig .scVector .hbm S36x100000 .f32) (Memref.isWhole_whole _) s1 s2 s3 (k0_t73_loop L) hok init body
    (k0_off889 L) inbT (k0_off907 L) inbA (k0_off925 L) inbB la lb hbody idxA idxB fa fb (fun b => fx (ix2 ⟨12, by decide⟩ b)) hla hlb hidx
    O W0 q ft ft (src_read_13 (F := F) d ((L 0).castLE hcore0) ((L 1).castLE hsub0) ft) Tset lo hi hT G g0 432 (dlo (wid L) 12) (432 + dlo (wid L) 12)
    rfl (by decide) (by omega) hlo hhi (off889_eq L) (off907_eq L) (off925_eq L) hG kk Q

/-- Field 13's loop over its rows: the rows `[468 + dlo, 468 + dhi)` of the output array end at `G`. -/
theorem dloop_13 (L : grid0.Coords) (d : Dev nD) (defs : Defs nD τ sig (Elt F) Λ₀)
    (s1 s2 s3 : DmaSems sig S_) (hok : (k0_t79_loop L).OK) (init : BitVec 32)
    (body : Fin (k0_t79_loop L).trips → BitVec 32 → Prog (TpuEff nD τ sig (Elt F) Λ₀ (.scVector ((L 0).castLE hcore0) ((L 1).castLE hsub0))) (BitVec 32))
    (inbT : ∀ k a, k0_off963 L k a + S1x100000.size a ≤ S36x100000.size a)
    (inbA : ∀ k a, k0_off981 L k a + S1x8192.size a ≤ S936x16384.size a)
    (inbB : ∀ k a, k0_off999 L k a + S1x8192.size a ≤ S936x16384.size a)
    (la lb : Fin (k0_t79_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v14_scv : Memref sig .scVector .hbm S36x100000 .f32) oV sRow (Memref.isWhole_whole _) sOch (Memref.isWhole_whole _) s1 s2 s3
        (k0_off963 L k) (inbT k) (k0_off981 L k) (inbA k) (k0_off999 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t79_loop L).trips →
      (∀ y : S8192.Idx, idxA.view.read (Elt F) fa y = fx (ix2 ⟨13, by decide⟩ ⟨(y 0).val, Nat.lt_of_lt_of_le (y 0).isLt (by decide)⟩))
      ∧ (∀ y : S8192.Idx, idxB.view.read (Elt F) fb y = fx (ix2 ⟨13, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v14_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t79_loop L).trips → lo ≤ 468 + dlo (wid L) 13) (hhi : 0 < (k0_t79_loop L).trips → 468 + dlo (wid L) 13 + (k0_t79_loop L).trips ≤ hi)
    (G g0 : Buf (Elt F) (oV.view.loc (V d ((L 0).castLE hcore0) ((L 1).castLE hsub0))))
    (hG : ∀ x : S936x16384.Idx, 468 + dlo (wid L) 13 ≤ (x 0).val → (x 0).val < 468 + dlo (wid L) 13 + (k0_t79_loop L).trips →
      G x = ft (tIx (x 0).val (fx (ix2 ⟨13, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v14_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (468 + dlo (wid L) 13) 0 init
        ∗ (∀ acc, rowsInv (F := F) ((L 0).castLE hcore0) ((L 1).castLE hsub0) d (Memref.whole main_v14_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (468 + dlo (wid L) 13) (k0_t79_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t79_loop L) hok init body >>= kk) Q := by
  have htr := t79_trips L
  have h1 := dlo_le_dhi (wid L) 13
  have h2 := dhi_le (wid L) 13
  exact field_loop (F := F) ((L 0).castLE hcore0) ((L 1).castLE hsub0) defs d (Memref.whole main_v14_scv : Memref sig .scVector .hbm S36x100000 .f32) (Memref.isWhole_whole _) s1 s2 s3 (k0_t79_loop L) hok init body
    (k0_off963 L) inbT (k0_off981 L) inbA (k0_off999 L) inbB la lb hbody idxA idxB fa fb (fun b => fx (ix2 ⟨13, by decide⟩ b)) hla hlb hidx
    O W0 q ft ft (src_read_14 (F := F) d ((L 0).castLE hcore0) ((L 1).castLE hsub0) ft) Tset lo hi hT G g0 468 (dlo (wid L) 13) (468 + dlo (wid L) 13)
    rfl (by decide) (by omega) hlo hhi (off963_eq L) (off981_eq L) (off999_eq L) hG kk Q

/-- Field 14's loop over its rows: the rows `[504 + dlo, 504 + dhi)` of the output array end at `G`. -/
theorem dloop_14 (L : grid0.Coords) (d : Dev nD) (defs : Defs nD τ sig (Elt F) Λ₀)
    (s1 s2 s3 : DmaSems sig S_) (hok : (k0_t85_loop L).OK) (init : BitVec 32)
    (body : Fin (k0_t85_loop L).trips → BitVec 32 → Prog (TpuEff nD τ sig (Elt F) Λ₀ (.scVector ((L 0).castLE hcore0) ((L 1).castLE hsub0))) (BitVec 32))
    (inbT : ∀ k a, k0_off1037 L k a + S1x100000.size a ≤ S36x100000.size a)
    (inbA : ∀ k a, k0_off1055 L k a + S1x8192.size a ≤ S936x16384.size a)
    (inbB : ∀ k a, k0_off1073 L k a + S1x8192.size a ≤ S936x16384.size a)
    (la lb : Fin (k0_t85_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v15_scv : Memref sig .scVector .hbm S36x100000 .f32) oV sRow (Memref.isWhole_whole _) sOch (Memref.isWhole_whole _) s1 s2 s3
        (k0_off1037 L k) (inbT k) (k0_off1055 L k) (inbA k) (k0_off1073 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t85_loop L).trips →
      (∀ y : S8192.Idx, idxA.view.read (Elt F) fa y = fx (ix2 ⟨14, by decide⟩ ⟨(y 0).val, Nat.lt_of_lt_of_le (y 0).isLt (by decide)⟩))
      ∧ (∀ y : S8192.Idx, idxB.view.read (Elt F) fb y = fx (ix2 ⟨14, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v15_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t85_loop L).trips → lo ≤ 504 + dlo (wid L) 14) (hhi : 0 < (k0_t85_loop L).trips → 504 + dlo (wid L) 14 + (k0_t85_loop L).trips ≤ hi)
    (G g0 : Buf (Elt F) (oV.view.loc (V d ((L 0).castLE hcore0) ((L 1).castLE hsub0))))
    (hG : ∀ x : S936x16384.Idx, 504 + dlo (wid L) 14 ≤ (x 0).val → (x 0).val < 504 + dlo (wid L) 14 + (k0_t85_loop L).trips →
      G x = ft (tIx (x 0).val (fx (ix2 ⟨14, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v15_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (504 + dlo (wid L) 14) 0 init
        ∗ (∀ acc, rowsInv (F := F) ((L 0).castLE hcore0) ((L 1).castLE hsub0) d (Memref.whole main_v15_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (504 + dlo (wid L) 14) (k0_t85_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t85_loop L) hok init body >>= kk) Q := by
  have htr := t85_trips L
  have h1 := dlo_le_dhi (wid L) 14
  have h2 := dhi_le (wid L) 14
  exact field_loop (F := F) ((L 0).castLE hcore0) ((L 1).castLE hsub0) defs d (Memref.whole main_v15_scv : Memref sig .scVector .hbm S36x100000 .f32) (Memref.isWhole_whole _) s1 s2 s3 (k0_t85_loop L) hok init body
    (k0_off1037 L) inbT (k0_off1055 L) inbA (k0_off1073 L) inbB la lb hbody idxA idxB fa fb (fun b => fx (ix2 ⟨14, by decide⟩ b)) hla hlb hidx
    O W0 q ft ft (src_read_15 (F := F) d ((L 0).castLE hcore0) ((L 1).castLE hsub0) ft) Tset lo hi hT G g0 504 (dlo (wid L) 14) (504 + dlo (wid L) 14)
    rfl (by decide) (by omega) hlo hhi (off1037_eq L) (off1055_eq L) (off1073_eq L) hG kk Q

/-- Field 15's loop over its rows: the rows `[540 + dlo, 540 + dhi)` of the output array end at `G`. -/
theorem dloop_15 (L : grid0.Coords) (d : Dev nD) (defs : Defs nD τ sig (Elt F) Λ₀)
    (s1 s2 s3 : DmaSems sig S_) (hok : (k0_t91_loop L).OK) (init : BitVec 32)
    (body : Fin (k0_t91_loop L).trips → BitVec 32 → Prog (TpuEff nD τ sig (Elt F) Λ₀ (.scVector ((L 0).castLE hcore0) ((L 1).castLE hsub0))) (BitVec 32))
    (inbT : ∀ k a, k0_off1111 L k a + S1x100000.size a ≤ S36x100000.size a)
    (inbA : ∀ k a, k0_off1129 L k a + S1x8192.size a ≤ S936x16384.size a)
    (inbB : ∀ k a, k0_off1147 L k a + S1x8192.size a ≤ S936x16384.size a)
    (la lb : Fin (k0_t91_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v16_scv : Memref sig .scVector .hbm S36x100000 .f32) oV sRow (Memref.isWhole_whole _) sOch (Memref.isWhole_whole _) s1 s2 s3
        (k0_off1111 L k) (inbT k) (k0_off1129 L k) (inbA k) (k0_off1147 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t91_loop L).trips →
      (∀ y : S8192.Idx, idxA.view.read (Elt F) fa y = fx (ix2 ⟨15, by decide⟩ ⟨(y 0).val, Nat.lt_of_lt_of_le (y 0).isLt (by decide)⟩))
      ∧ (∀ y : S8192.Idx, idxB.view.read (Elt F) fb y = fx (ix2 ⟨15, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v16_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t91_loop L).trips → lo ≤ 540 + dlo (wid L) 15) (hhi : 0 < (k0_t91_loop L).trips → 540 + dlo (wid L) 15 + (k0_t91_loop L).trips ≤ hi)
    (G g0 : Buf (Elt F) (oV.view.loc (V d ((L 0).castLE hcore0) ((L 1).castLE hsub0))))
    (hG : ∀ x : S936x16384.Idx, 540 + dlo (wid L) 15 ≤ (x 0).val → (x 0).val < 540 + dlo (wid L) 15 + (k0_t91_loop L).trips →
      G x = ft (tIx (x 0).val (fx (ix2 ⟨15, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v16_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (540 + dlo (wid L) 15) 0 init
        ∗ (∀ acc, rowsInv (F := F) ((L 0).castLE hcore0) ((L 1).castLE hsub0) d (Memref.whole main_v16_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (540 + dlo (wid L) 15) (k0_t91_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t91_loop L) hok init body >>= kk) Q := by
  have htr := t91_trips L
  have h1 := dlo_le_dhi (wid L) 15
  have h2 := dhi_le (wid L) 15
  exact field_loop (F := F) ((L 0).castLE hcore0) ((L 1).castLE hsub0) defs d (Memref.whole main_v16_scv : Memref sig .scVector .hbm S36x100000 .f32) (Memref.isWhole_whole _) s1 s2 s3 (k0_t91_loop L) hok init body
    (k0_off1111 L) inbT (k0_off1129 L) inbA (k0_off1147 L) inbB la lb hbody idxA idxB fa fb (fun b => fx (ix2 ⟨15, by decide⟩ b)) hla hlb hidx
    O W0 q ft ft (src_read_16 (F := F) d ((L 0).castLE hcore0) ((L 1).castLE hsub0) ft) Tset lo hi hT G g0 540 (dlo (wid L) 15) (540 + dlo (wid L) 15)
    rfl (by decide) (by omega) hlo hhi (off1111_eq L) (off1129_eq L) (off1147_eq L) hG kk Q

/-- Field 16's loop over its rows: the rows `[576 + dlo, 576 + dhi)` of the output array end at `G`. -/
theorem dloop_16 (L : grid0.Coords) (d : Dev nD) (defs : Defs nD τ sig (Elt F) Λ₀)
    (s1 s2 s3 : DmaSems sig S_) (hok : (k0_t97_loop L).OK) (init : BitVec 32)
    (body : Fin (k0_t97_loop L).trips → BitVec 32 → Prog (TpuEff nD τ sig (Elt F) Λ₀ (.scVector ((L 0).castLE hcore0) ((L 1).castLE hsub0))) (BitVec 32))
    (inbT : ∀ k a, k0_off1185 L k a + S1x100000.size a ≤ S36x100000.size a)
    (inbA : ∀ k a, k0_off1203 L k a + S1x8192.size a ≤ S936x16384.size a)
    (inbB : ∀ k a, k0_off1221 L k a + S1x8192.size a ≤ S936x16384.size a)
    (la lb : Fin (k0_t97_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v17_scv : Memref sig .scVector .hbm S36x100000 .f32) oV sRow (Memref.isWhole_whole _) sOch (Memref.isWhole_whole _) s1 s2 s3
        (k0_off1185 L k) (inbT k) (k0_off1203 L k) (inbA k) (k0_off1221 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t97_loop L).trips →
      (∀ y : S8192.Idx, idxA.view.read (Elt F) fa y = fx (ix2 ⟨16, by decide⟩ ⟨(y 0).val, Nat.lt_of_lt_of_le (y 0).isLt (by decide)⟩))
      ∧ (∀ y : S8192.Idx, idxB.view.read (Elt F) fb y = fx (ix2 ⟨16, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v17_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t97_loop L).trips → lo ≤ 576 + dlo (wid L) 16) (hhi : 0 < (k0_t97_loop L).trips → 576 + dlo (wid L) 16 + (k0_t97_loop L).trips ≤ hi)
    (G g0 : Buf (Elt F) (oV.view.loc (V d ((L 0).castLE hcore0) ((L 1).castLE hsub0))))
    (hG : ∀ x : S936x16384.Idx, 576 + dlo (wid L) 16 ≤ (x 0).val → (x 0).val < 576 + dlo (wid L) 16 + (k0_t97_loop L).trips →
      G x = ft (tIx (x 0).val (fx (ix2 ⟨16, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v17_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (576 + dlo (wid L) 16) 0 init
        ∗ (∀ acc, rowsInv (F := F) ((L 0).castLE hcore0) ((L 1).castLE hsub0) d (Memref.whole main_v17_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (576 + dlo (wid L) 16) (k0_t97_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t97_loop L) hok init body >>= kk) Q := by
  have htr := t97_trips L
  have h1 := dlo_le_dhi (wid L) 16
  have h2 := dhi_le (wid L) 16
  exact field_loop (F := F) ((L 0).castLE hcore0) ((L 1).castLE hsub0) defs d (Memref.whole main_v17_scv : Memref sig .scVector .hbm S36x100000 .f32) (Memref.isWhole_whole _) s1 s2 s3 (k0_t97_loop L) hok init body
    (k0_off1185 L) inbT (k0_off1203 L) inbA (k0_off1221 L) inbB la lb hbody idxA idxB fa fb (fun b => fx (ix2 ⟨16, by decide⟩ b)) hla hlb hidx
    O W0 q ft ft (src_read_17 (F := F) d ((L 0).castLE hcore0) ((L 1).castLE hsub0) ft) Tset lo hi hT G g0 576 (dlo (wid L) 16) (576 + dlo (wid L) 16)
    rfl (by decide) (by omega) hlo hhi (off1185_eq L) (off1203_eq L) (off1221_eq L) hG kk Q

/-- Field 17's loop over its rows: the rows `[612 + dlo, 612 + dhi)` of the output array end at `G`. -/
theorem dloop_17 (L : grid0.Coords) (d : Dev nD) (defs : Defs nD τ sig (Elt F) Λ₀)
    (s1 s2 s3 : DmaSems sig S_) (hok : (k0_t103_loop L).OK) (init : BitVec 32)
    (body : Fin (k0_t103_loop L).trips → BitVec 32 → Prog (TpuEff nD τ sig (Elt F) Λ₀ (.scVector ((L 0).castLE hcore0) ((L 1).castLE hsub0))) (BitVec 32))
    (inbT : ∀ k a, k0_off1259 L k a + S1x100000.size a ≤ S36x100000.size a)
    (inbA : ∀ k a, k0_off1277 L k a + S1x8192.size a ≤ S936x16384.size a)
    (inbB : ∀ k a, k0_off1295 L k a + S1x8192.size a ≤ S936x16384.size a)
    (la lb : Fin (k0_t103_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v18_scv : Memref sig .scVector .hbm S36x100000 .f32) oV sRow (Memref.isWhole_whole _) sOch (Memref.isWhole_whole _) s1 s2 s3
        (k0_off1259 L k) (inbT k) (k0_off1277 L k) (inbA k) (k0_off1295 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t103_loop L).trips →
      (∀ y : S8192.Idx, idxA.view.read (Elt F) fa y = fx (ix2 ⟨17, by decide⟩ ⟨(y 0).val, Nat.lt_of_lt_of_le (y 0).isLt (by decide)⟩))
      ∧ (∀ y : S8192.Idx, idxB.view.read (Elt F) fb y = fx (ix2 ⟨17, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v18_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t103_loop L).trips → lo ≤ 612 + dlo (wid L) 17) (hhi : 0 < (k0_t103_loop L).trips → 612 + dlo (wid L) 17 + (k0_t103_loop L).trips ≤ hi)
    (G g0 : Buf (Elt F) (oV.view.loc (V d ((L 0).castLE hcore0) ((L 1).castLE hsub0))))
    (hG : ∀ x : S936x16384.Idx, 612 + dlo (wid L) 17 ≤ (x 0).val → (x 0).val < 612 + dlo (wid L) 17 + (k0_t103_loop L).trips →
      G x = ft (tIx (x 0).val (fx (ix2 ⟨17, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v18_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (612 + dlo (wid L) 17) 0 init
        ∗ (∀ acc, rowsInv (F := F) ((L 0).castLE hcore0) ((L 1).castLE hsub0) d (Memref.whole main_v18_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (612 + dlo (wid L) 17) (k0_t103_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t103_loop L) hok init body >>= kk) Q := by
  have htr := t103_trips L
  have h1 := dlo_le_dhi (wid L) 17
  have h2 := dhi_le (wid L) 17
  exact field_loop (F := F) ((L 0).castLE hcore0) ((L 1).castLE hsub0) defs d (Memref.whole main_v18_scv : Memref sig .scVector .hbm S36x100000 .f32) (Memref.isWhole_whole _) s1 s2 s3 (k0_t103_loop L) hok init body
    (k0_off1259 L) inbT (k0_off1277 L) inbA (k0_off1295 L) inbB la lb hbody idxA idxB fa fb (fun b => fx (ix2 ⟨17, by decide⟩ b)) hla hlb hidx
    O W0 q ft ft (src_read_18 (F := F) d ((L 0).castLE hcore0) ((L 1).castLE hsub0) ft) Tset lo hi hT G g0 612 (dlo (wid L) 17) (612 + dlo (wid L) 17)
    rfl (by decide) (by omega) hlo hhi (off1259_eq L) (off1277_eq L) (off1295_eq L) hG kk Q

/-- Field 18's loop over its rows: the rows `[648 + dlo, 648 + dhi)` of the output array end at `G`. -/
theorem dloop_18 (L : grid0.Coords) (d : Dev nD) (defs : Defs nD τ sig (Elt F) Λ₀)
    (s1 s2 s3 : DmaSems sig S_) (hok : (k0_t109_loop L).OK) (init : BitVec 32)
    (body : Fin (k0_t109_loop L).trips → BitVec 32 → Prog (TpuEff nD τ sig (Elt F) Λ₀ (.scVector ((L 0).castLE hcore0) ((L 1).castLE hsub0))) (BitVec 32))
    (inbT : ∀ k a, k0_off1333 L k a + S1x100000.size a ≤ S36x100000.size a)
    (inbA : ∀ k a, k0_off1351 L k a + S1x8192.size a ≤ S936x16384.size a)
    (inbB : ∀ k a, k0_off1369 L k a + S1x8192.size a ≤ S936x16384.size a)
    (la lb : Fin (k0_t109_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v19_scv : Memref sig .scVector .hbm S36x100000 .f32) oV sRow (Memref.isWhole_whole _) sOch (Memref.isWhole_whole _) s1 s2 s3
        (k0_off1333 L k) (inbT k) (k0_off1351 L k) (inbA k) (k0_off1369 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t109_loop L).trips →
      (∀ y : S8192.Idx, idxA.view.read (Elt F) fa y = fx (ix2 ⟨18, by decide⟩ ⟨(y 0).val, Nat.lt_of_lt_of_le (y 0).isLt (by decide)⟩))
      ∧ (∀ y : S8192.Idx, idxB.view.read (Elt F) fb y = fx (ix2 ⟨18, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v19_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t109_loop L).trips → lo ≤ 648 + dlo (wid L) 18) (hhi : 0 < (k0_t109_loop L).trips → 648 + dlo (wid L) 18 + (k0_t109_loop L).trips ≤ hi)
    (G g0 : Buf (Elt F) (oV.view.loc (V d ((L 0).castLE hcore0) ((L 1).castLE hsub0))))
    (hG : ∀ x : S936x16384.Idx, 648 + dlo (wid L) 18 ≤ (x 0).val → (x 0).val < 648 + dlo (wid L) 18 + (k0_t109_loop L).trips →
      G x = ft (tIx (x 0).val (fx (ix2 ⟨18, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v19_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (648 + dlo (wid L) 18) 0 init
        ∗ (∀ acc, rowsInv (F := F) ((L 0).castLE hcore0) ((L 1).castLE hsub0) d (Memref.whole main_v19_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (648 + dlo (wid L) 18) (k0_t109_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t109_loop L) hok init body >>= kk) Q := by
  have htr := t109_trips L
  have h1 := dlo_le_dhi (wid L) 18
  have h2 := dhi_le (wid L) 18
  exact field_loop (F := F) ((L 0).castLE hcore0) ((L 1).castLE hsub0) defs d (Memref.whole main_v19_scv : Memref sig .scVector .hbm S36x100000 .f32) (Memref.isWhole_whole _) s1 s2 s3 (k0_t109_loop L) hok init body
    (k0_off1333 L) inbT (k0_off1351 L) inbA (k0_off1369 L) inbB la lb hbody idxA idxB fa fb (fun b => fx (ix2 ⟨18, by decide⟩ b)) hla hlb hidx
    O W0 q ft ft (src_read_19 (F := F) d ((L 0).castLE hcore0) ((L 1).castLE hsub0) ft) Tset lo hi hT G g0 648 (dlo (wid L) 18) (648 + dlo (wid L) 18)
    rfl (by decide) (by omega) hlo hhi (off1333_eq L) (off1351_eq L) (off1369_eq L) hG kk Q

/-- Field 19's loop over its rows: the rows `[684 + dlo, 684 + dhi)` of the output array end at `G`. -/
theorem dloop_19 (L : grid0.Coords) (d : Dev nD) (defs : Defs nD τ sig (Elt F) Λ₀)
    (s1 s2 s3 : DmaSems sig S_) (hok : (k0_t115_loop L).OK) (init : BitVec 32)
    (body : Fin (k0_t115_loop L).trips → BitVec 32 → Prog (TpuEff nD τ sig (Elt F) Λ₀ (.scVector ((L 0).castLE hcore0) ((L 1).castLE hsub0))) (BitVec 32))
    (inbT : ∀ k a, k0_off1407 L k a + S1x100000.size a ≤ S36x100000.size a)
    (inbA : ∀ k a, k0_off1425 L k a + S1x8192.size a ≤ S936x16384.size a)
    (inbB : ∀ k a, k0_off1443 L k a + S1x8192.size a ≤ S936x16384.size a)
    (la lb : Fin (k0_t115_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v20_scv : Memref sig .scVector .hbm S36x100000 .f32) oV sRow (Memref.isWhole_whole _) sOch (Memref.isWhole_whole _) s1 s2 s3
        (k0_off1407 L k) (inbT k) (k0_off1425 L k) (inbA k) (k0_off1443 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t115_loop L).trips →
      (∀ y : S8192.Idx, idxA.view.read (Elt F) fa y = fx (ix2 ⟨19, by decide⟩ ⟨(y 0).val, Nat.lt_of_lt_of_le (y 0).isLt (by decide)⟩))
      ∧ (∀ y : S8192.Idx, idxB.view.read (Elt F) fb y = fx (ix2 ⟨19, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v20_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t115_loop L).trips → lo ≤ 684 + dlo (wid L) 19) (hhi : 0 < (k0_t115_loop L).trips → 684 + dlo (wid L) 19 + (k0_t115_loop L).trips ≤ hi)
    (G g0 : Buf (Elt F) (oV.view.loc (V d ((L 0).castLE hcore0) ((L 1).castLE hsub0))))
    (hG : ∀ x : S936x16384.Idx, 684 + dlo (wid L) 19 ≤ (x 0).val → (x 0).val < 684 + dlo (wid L) 19 + (k0_t115_loop L).trips →
      G x = ft (tIx (x 0).val (fx (ix2 ⟨19, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v20_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (684 + dlo (wid L) 19) 0 init
        ∗ (∀ acc, rowsInv (F := F) ((L 0).castLE hcore0) ((L 1).castLE hsub0) d (Memref.whole main_v20_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (684 + dlo (wid L) 19) (k0_t115_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t115_loop L) hok init body >>= kk) Q := by
  have htr := t115_trips L
  have h1 := dlo_le_dhi (wid L) 19
  have h2 := dhi_le (wid L) 19
  exact field_loop (F := F) ((L 0).castLE hcore0) ((L 1).castLE hsub0) defs d (Memref.whole main_v20_scv : Memref sig .scVector .hbm S36x100000 .f32) (Memref.isWhole_whole _) s1 s2 s3 (k0_t115_loop L) hok init body
    (k0_off1407 L) inbT (k0_off1425 L) inbA (k0_off1443 L) inbB la lb hbody idxA idxB fa fb (fun b => fx (ix2 ⟨19, by decide⟩ b)) hla hlb hidx
    O W0 q ft ft (src_read_20 (F := F) d ((L 0).castLE hcore0) ((L 1).castLE hsub0) ft) Tset lo hi hT G g0 684 (dlo (wid L) 19) (684 + dlo (wid L) 19)
    rfl (by decide) (by omega) hlo hhi (off1407_eq L) (off1425_eq L) (off1443_eq L) hG kk Q

/-- Field 20's loop over its rows: the rows `[720 + dlo, 720 + dhi)` of the output array end at `G`. -/
theorem dloop_20 (L : grid0.Coords) (d : Dev nD) (defs : Defs nD τ sig (Elt F) Λ₀)
    (s1 s2 s3 : DmaSems sig S_) (hok : (k0_t121_loop L).OK) (init : BitVec 32)
    (body : Fin (k0_t121_loop L).trips → BitVec 32 → Prog (TpuEff nD τ sig (Elt F) Λ₀ (.scVector ((L 0).castLE hcore0) ((L 1).castLE hsub0))) (BitVec 32))
    (inbT : ∀ k a, k0_off1481 L k a + S1x100000.size a ≤ S36x100000.size a)
    (inbA : ∀ k a, k0_off1499 L k a + S1x8192.size a ≤ S936x16384.size a)
    (inbB : ∀ k a, k0_off1517 L k a + S1x8192.size a ≤ S936x16384.size a)
    (la lb : Fin (k0_t121_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v21_scv : Memref sig .scVector .hbm S36x100000 .f32) oV sRow (Memref.isWhole_whole _) sOch (Memref.isWhole_whole _) s1 s2 s3
        (k0_off1481 L k) (inbT k) (k0_off1499 L k) (inbA k) (k0_off1517 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t121_loop L).trips →
      (∀ y : S8192.Idx, idxA.view.read (Elt F) fa y = fx (ix2 ⟨20, by decide⟩ ⟨(y 0).val, Nat.lt_of_lt_of_le (y 0).isLt (by decide)⟩))
      ∧ (∀ y : S8192.Idx, idxB.view.read (Elt F) fb y = fx (ix2 ⟨20, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v21_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t121_loop L).trips → lo ≤ 720 + dlo (wid L) 20) (hhi : 0 < (k0_t121_loop L).trips → 720 + dlo (wid L) 20 + (k0_t121_loop L).trips ≤ hi)
    (G g0 : Buf (Elt F) (oV.view.loc (V d ((L 0).castLE hcore0) ((L 1).castLE hsub0))))
    (hG : ∀ x : S936x16384.Idx, 720 + dlo (wid L) 20 ≤ (x 0).val → (x 0).val < 720 + dlo (wid L) 20 + (k0_t121_loop L).trips →
      G x = ft (tIx (x 0).val (fx (ix2 ⟨20, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v21_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (720 + dlo (wid L) 20) 0 init
        ∗ (∀ acc, rowsInv (F := F) ((L 0).castLE hcore0) ((L 1).castLE hsub0) d (Memref.whole main_v21_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (720 + dlo (wid L) 20) (k0_t121_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t121_loop L) hok init body >>= kk) Q := by
  have htr := t121_trips L
  have h1 := dlo_le_dhi (wid L) 20
  have h2 := dhi_le (wid L) 20
  exact field_loop (F := F) ((L 0).castLE hcore0) ((L 1).castLE hsub0) defs d (Memref.whole main_v21_scv : Memref sig .scVector .hbm S36x100000 .f32) (Memref.isWhole_whole _) s1 s2 s3 (k0_t121_loop L) hok init body
    (k0_off1481 L) inbT (k0_off1499 L) inbA (k0_off1517 L) inbB la lb hbody idxA idxB fa fb (fun b => fx (ix2 ⟨20, by decide⟩ b)) hla hlb hidx
    O W0 q ft ft (src_read_21 (F := F) d ((L 0).castLE hcore0) ((L 1).castLE hsub0) ft) Tset lo hi hT G g0 720 (dlo (wid L) 20) (720 + dlo (wid L) 20)
    rfl (by decide) (by omega) hlo hhi (off1481_eq L) (off1499_eq L) (off1517_eq L) hG kk Q

/-- Field 21's loop over its rows: the rows `[756 + dlo, 756 + dhi)` of the output array end at `G`. -/
theorem dloop_21 (L : grid0.Coords) (d : Dev nD) (defs : Defs nD τ sig (Elt F) Λ₀)
    (s1 s2 s3 : DmaSems sig S_) (hok : (k0_t127_loop L).OK) (init : BitVec 32)
    (body : Fin (k0_t127_loop L).trips → BitVec 32 → Prog (TpuEff nD τ sig (Elt F) Λ₀ (.scVector ((L 0).castLE hcore0) ((L 1).castLE hsub0))) (BitVec 32))
    (inbT : ∀ k a, k0_off1555 L k a + S1x100000.size a ≤ S36x100000.size a)
    (inbA : ∀ k a, k0_off1573 L k a + S1x8192.size a ≤ S936x16384.size a)
    (inbB : ∀ k a, k0_off1591 L k a + S1x8192.size a ≤ S936x16384.size a)
    (la lb : Fin (k0_t127_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v22_scv : Memref sig .scVector .hbm S36x100000 .f32) oV sRow (Memref.isWhole_whole _) sOch (Memref.isWhole_whole _) s1 s2 s3
        (k0_off1555 L k) (inbT k) (k0_off1573 L k) (inbA k) (k0_off1591 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t127_loop L).trips →
      (∀ y : S8192.Idx, idxA.view.read (Elt F) fa y = fx (ix2 ⟨21, by decide⟩ ⟨(y 0).val, Nat.lt_of_lt_of_le (y 0).isLt (by decide)⟩))
      ∧ (∀ y : S8192.Idx, idxB.view.read (Elt F) fb y = fx (ix2 ⟨21, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v22_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t127_loop L).trips → lo ≤ 756 + dlo (wid L) 21) (hhi : 0 < (k0_t127_loop L).trips → 756 + dlo (wid L) 21 + (k0_t127_loop L).trips ≤ hi)
    (G g0 : Buf (Elt F) (oV.view.loc (V d ((L 0).castLE hcore0) ((L 1).castLE hsub0))))
    (hG : ∀ x : S936x16384.Idx, 756 + dlo (wid L) 21 ≤ (x 0).val → (x 0).val < 756 + dlo (wid L) 21 + (k0_t127_loop L).trips →
      G x = ft (tIx (x 0).val (fx (ix2 ⟨21, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v22_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (756 + dlo (wid L) 21) 0 init
        ∗ (∀ acc, rowsInv (F := F) ((L 0).castLE hcore0) ((L 1).castLE hsub0) d (Memref.whole main_v22_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (756 + dlo (wid L) 21) (k0_t127_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t127_loop L) hok init body >>= kk) Q := by
  have htr := t127_trips L
  have h1 := dlo_le_dhi (wid L) 21
  have h2 := dhi_le (wid L) 21
  exact field_loop (F := F) ((L 0).castLE hcore0) ((L 1).castLE hsub0) defs d (Memref.whole main_v22_scv : Memref sig .scVector .hbm S36x100000 .f32) (Memref.isWhole_whole _) s1 s2 s3 (k0_t127_loop L) hok init body
    (k0_off1555 L) inbT (k0_off1573 L) inbA (k0_off1591 L) inbB la lb hbody idxA idxB fa fb (fun b => fx (ix2 ⟨21, by decide⟩ b)) hla hlb hidx
    O W0 q ft ft (src_read_22 (F := F) d ((L 0).castLE hcore0) ((L 1).castLE hsub0) ft) Tset lo hi hT G g0 756 (dlo (wid L) 21) (756 + dlo (wid L) 21)
    rfl (by decide) (by omega) hlo hhi (off1555_eq L) (off1573_eq L) (off1591_eq L) hG kk Q

/-- Field 22's loop over its rows: the rows `[792 + dlo, 792 + dhi)` of the output array end at `G`. -/
theorem dloop_22 (L : grid0.Coords) (d : Dev nD) (defs : Defs nD τ sig (Elt F) Λ₀)
    (s1 s2 s3 : DmaSems sig S_) (hok : (k0_t133_loop L).OK) (init : BitVec 32)
    (body : Fin (k0_t133_loop L).trips → BitVec 32 → Prog (TpuEff nD τ sig (Elt F) Λ₀ (.scVector ((L 0).castLE hcore0) ((L 1).castLE hsub0))) (BitVec 32))
    (inbT : ∀ k a, k0_off1629 L k a + S1x100000.size a ≤ S36x100000.size a)
    (inbA : ∀ k a, k0_off1647 L k a + S1x8192.size a ≤ S936x16384.size a)
    (inbB : ∀ k a, k0_off1665 L k a + S1x8192.size a ≤ S936x16384.size a)
    (la lb : Fin (k0_t133_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v23_scv : Memref sig .scVector .hbm S36x100000 .f32) oV sRow (Memref.isWhole_whole _) sOch (Memref.isWhole_whole _) s1 s2 s3
        (k0_off1629 L k) (inbT k) (k0_off1647 L k) (inbA k) (k0_off1665 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t133_loop L).trips →
      (∀ y : S8192.Idx, idxA.view.read (Elt F) fa y = fx (ix2 ⟨22, by decide⟩ ⟨(y 0).val, Nat.lt_of_lt_of_le (y 0).isLt (by decide)⟩))
      ∧ (∀ y : S8192.Idx, idxB.view.read (Elt F) fb y = fx (ix2 ⟨22, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v23_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t133_loop L).trips → lo ≤ 792 + dlo (wid L) 22) (hhi : 0 < (k0_t133_loop L).trips → 792 + dlo (wid L) 22 + (k0_t133_loop L).trips ≤ hi)
    (G g0 : Buf (Elt F) (oV.view.loc (V d ((L 0).castLE hcore0) ((L 1).castLE hsub0))))
    (hG : ∀ x : S936x16384.Idx, 792 + dlo (wid L) 22 ≤ (x 0).val → (x 0).val < 792 + dlo (wid L) 22 + (k0_t133_loop L).trips →
      G x = ft (tIx (x 0).val (fx (ix2 ⟨22, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v23_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (792 + dlo (wid L) 22) 0 init
        ∗ (∀ acc, rowsInv (F := F) ((L 0).castLE hcore0) ((L 1).castLE hsub0) d (Memref.whole main_v23_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (792 + dlo (wid L) 22) (k0_t133_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t133_loop L) hok init body >>= kk) Q := by
  have htr := t133_trips L
  have h1 := dlo_le_dhi (wid L) 22
  have h2 := dhi_le (wid L) 22
  exact field_loop (F := F) ((L 0).castLE hcore0) ((L 1).castLE hsub0) defs d (Memref.whole main_v23_scv : Memref sig .scVector .hbm S36x100000 .f32) (Memref.isWhole_whole _) s1 s2 s3 (k0_t133_loop L) hok init body
    (k0_off1629 L) inbT (k0_off1647 L) inbA (k0_off1665 L) inbB la lb hbody idxA idxB fa fb (fun b => fx (ix2 ⟨22, by decide⟩ b)) hla hlb hidx
    O W0 q ft ft (src_read_23 (F := F) d ((L 0).castLE hcore0) ((L 1).castLE hsub0) ft) Tset lo hi hT G g0 792 (dlo (wid L) 22) (792 + dlo (wid L) 22)
    rfl (by decide) (by omega) hlo hhi (off1629_eq L) (off1647_eq L) (off1665_eq L) hG kk Q

/-- Field 23's loop over its rows: the rows `[828 + dlo, 828 + dhi)` of the output array end at `G`. -/
theorem dloop_23 (L : grid0.Coords) (d : Dev nD) (defs : Defs nD τ sig (Elt F) Λ₀)
    (s1 s2 s3 : DmaSems sig S_) (hok : (k0_t139_loop L).OK) (init : BitVec 32)
    (body : Fin (k0_t139_loop L).trips → BitVec 32 → Prog (TpuEff nD τ sig (Elt F) Λ₀ (.scVector ((L 0).castLE hcore0) ((L 1).castLE hsub0))) (BitVec 32))
    (inbT : ∀ k a, k0_off1703 L k a + S1x100000.size a ≤ S36x100000.size a)
    (inbA : ∀ k a, k0_off1721 L k a + S1x8192.size a ≤ S936x16384.size a)
    (inbB : ∀ k a, k0_off1739 L k a + S1x8192.size a ≤ S936x16384.size a)
    (la lb : Fin (k0_t139_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v24_scv : Memref sig .scVector .hbm S36x100000 .f32) oV sRow (Memref.isWhole_whole _) sOch (Memref.isWhole_whole _) s1 s2 s3
        (k0_off1703 L k) (inbT k) (k0_off1721 L k) (inbA k) (k0_off1739 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t139_loop L).trips →
      (∀ y : S8192.Idx, idxA.view.read (Elt F) fa y = fx (ix2 ⟨23, by decide⟩ ⟨(y 0).val, Nat.lt_of_lt_of_le (y 0).isLt (by decide)⟩))
      ∧ (∀ y : S8192.Idx, idxB.view.read (Elt F) fb y = fx (ix2 ⟨23, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v24_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t139_loop L).trips → lo ≤ 828 + dlo (wid L) 23) (hhi : 0 < (k0_t139_loop L).trips → 828 + dlo (wid L) 23 + (k0_t139_loop L).trips ≤ hi)
    (G g0 : Buf (Elt F) (oV.view.loc (V d ((L 0).castLE hcore0) ((L 1).castLE hsub0))))
    (hG : ∀ x : S936x16384.Idx, 828 + dlo (wid L) 23 ≤ (x 0).val → (x 0).val < 828 + dlo (wid L) 23 + (k0_t139_loop L).trips →
      G x = ft (tIx (x 0).val (fx (ix2 ⟨23, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v24_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (828 + dlo (wid L) 23) 0 init
        ∗ (∀ acc, rowsInv (F := F) ((L 0).castLE hcore0) ((L 1).castLE hsub0) d (Memref.whole main_v24_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (828 + dlo (wid L) 23) (k0_t139_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t139_loop L) hok init body >>= kk) Q := by
  have htr := t139_trips L
  have h1 := dlo_le_dhi (wid L) 23
  have h2 := dhi_le (wid L) 23
  exact field_loop (F := F) ((L 0).castLE hcore0) ((L 1).castLE hsub0) defs d (Memref.whole main_v24_scv : Memref sig .scVector .hbm S36x100000 .f32) (Memref.isWhole_whole _) s1 s2 s3 (k0_t139_loop L) hok init body
    (k0_off1703 L) inbT (k0_off1721 L) inbA (k0_off1739 L) inbB la lb hbody idxA idxB fa fb (fun b => fx (ix2 ⟨23, by decide⟩ b)) hla hlb hidx
    O W0 q ft ft (src_read_24 (F := F) d ((L 0).castLE hcore0) ((L 1).castLE hsub0) ft) Tset lo hi hT G g0 828 (dlo (wid L) 23) (828 + dlo (wid L) 23)
    rfl (by decide) (by omega) hlo hhi (off1703_eq L) (off1721_eq L) (off1739_eq L) hG kk Q

/-- Field 24's loop over its rows: the rows `[864 + dlo, 864 + dhi)` of the output array end at `G`. -/
theorem dloop_24 (L : grid0.Coords) (d : Dev nD) (defs : Defs nD τ sig (Elt F) Λ₀)
    (s1 s2 s3 : DmaSems sig S_) (hok : (k0_t145_loop L).OK) (init : BitVec 32)
    (body : Fin (k0_t145_loop L).trips → BitVec 32 → Prog (TpuEff nD τ sig (Elt F) Λ₀ (.scVector ((L 0).castLE hcore0) ((L 1).castLE hsub0))) (BitVec 32))
    (inbT : ∀ k a, k0_off1777 L k a + S1x100000.size a ≤ S36x100000.size a)
    (inbA : ∀ k a, k0_off1795 L k a + S1x8192.size a ≤ S936x16384.size a)
    (inbB : ∀ k a, k0_off1813 L k a + S1x8192.size a ≤ S936x16384.size a)
    (la lb : Fin (k0_t145_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v25_scv : Memref sig .scVector .hbm S36x100000 .f32) oV sRow (Memref.isWhole_whole _) sOch (Memref.isWhole_whole _) s1 s2 s3
        (k0_off1777 L k) (inbT k) (k0_off1795 L k) (inbA k) (k0_off1813 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t145_loop L).trips →
      (∀ y : S8192.Idx, idxA.view.read (Elt F) fa y = fx (ix2 ⟨24, by decide⟩ ⟨(y 0).val, Nat.lt_of_lt_of_le (y 0).isLt (by decide)⟩))
      ∧ (∀ y : S8192.Idx, idxB.view.read (Elt F) fb y = fx (ix2 ⟨24, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v25_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t145_loop L).trips → lo ≤ 864 + dlo (wid L) 24) (hhi : 0 < (k0_t145_loop L).trips → 864 + dlo (wid L) 24 + (k0_t145_loop L).trips ≤ hi)
    (G g0 : Buf (Elt F) (oV.view.loc (V d ((L 0).castLE hcore0) ((L 1).castLE hsub0))))
    (hG : ∀ x : S936x16384.Idx, 864 + dlo (wid L) 24 ≤ (x 0).val → (x 0).val < 864 + dlo (wid L) 24 + (k0_t145_loop L).trips →
      G x = ft (tIx (x 0).val (fx (ix2 ⟨24, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v25_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (864 + dlo (wid L) 24) 0 init
        ∗ (∀ acc, rowsInv (F := F) ((L 0).castLE hcore0) ((L 1).castLE hsub0) d (Memref.whole main_v25_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (864 + dlo (wid L) 24) (k0_t145_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t145_loop L) hok init body >>= kk) Q := by
  have htr := t145_trips L
  have h1 := dlo_le_dhi (wid L) 24
  have h2 := dhi_le (wid L) 24
  exact field_loop (F := F) ((L 0).castLE hcore0) ((L 1).castLE hsub0) defs d (Memref.whole main_v25_scv : Memref sig .scVector .hbm S36x100000 .f32) (Memref.isWhole_whole _) s1 s2 s3 (k0_t145_loop L) hok init body
    (k0_off1777 L) inbT (k0_off1795 L) inbA (k0_off1813 L) inbB la lb hbody idxA idxB fa fb (fun b => fx (ix2 ⟨24, by decide⟩ b)) hla hlb hidx
    O W0 q ft ft (src_read_25 (F := F) d ((L 0).castLE hcore0) ((L 1).castLE hsub0) ft) Tset lo hi hT G g0 864 (dlo (wid L) 24) (864 + dlo (wid L) 24)
    rfl (by decide) (by omega) hlo hhi (off1777_eq L) (off1795_eq L) (off1813_eq L) hG kk Q

/-- Field 25's loop over its rows: the rows `[900 + dlo, 900 + dhi)` of the output array end at `G`. -/
theorem dloop_25 (L : grid0.Coords) (d : Dev nD) (defs : Defs nD τ sig (Elt F) Λ₀)
    (s1 s2 s3 : DmaSems sig S_) (hok : (k0_t151_loop L).OK) (init : BitVec 32)
    (body : Fin (k0_t151_loop L).trips → BitVec 32 → Prog (TpuEff nD τ sig (Elt F) Λ₀ (.scVector ((L 0).castLE hcore0) ((L 1).castLE hsub0))) (BitVec 32))
    (inbT : ∀ k a, k0_off1851 L k a + S1x100000.size a ≤ S36x100000.size a)
    (inbA : ∀ k a, k0_off1869 L k a + S1x8192.size a ≤ S936x16384.size a)
    (inbB : ∀ k a, k0_off1887 L k a + S1x8192.size a ≤ S936x16384.size a)
    (la lb : Fin (k0_t151_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v26_scv : Memref sig .scVector .hbm S36x100000 .f32) oV sRow (Memref.isWhole_whole _) sOch (Memref.isWhole_whole _) s1 s2 s3
        (k0_off1851 L k) (inbT k) (k0_off1869 L k) (inbA k) (k0_off1887 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t151_loop L).trips →
      (∀ y : S8192.Idx, idxA.view.read (Elt F) fa y = fx (ix2 ⟨25, by decide⟩ ⟨(y 0).val, Nat.lt_of_lt_of_le (y 0).isLt (by decide)⟩))
      ∧ (∀ y : S8192.Idx, idxB.view.read (Elt F) fb y = fx (ix2 ⟨25, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v26_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t151_loop L).trips → lo ≤ 900 + dlo (wid L) 25) (hhi : 0 < (k0_t151_loop L).trips → 900 + dlo (wid L) 25 + (k0_t151_loop L).trips ≤ hi)
    (G g0 : Buf (Elt F) (oV.view.loc (V d ((L 0).castLE hcore0) ((L 1).castLE hsub0))))
    (hG : ∀ x : S936x16384.Idx, 900 + dlo (wid L) 25 ≤ (x 0).val → (x 0).val < 900 + dlo (wid L) 25 + (k0_t151_loop L).trips →
      G x = ft (tIx (x 0).val (fx (ix2 ⟨25, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v26_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (900 + dlo (wid L) 25) 0 init
        ∗ (∀ acc, rowsInv (F := F) ((L 0).castLE hcore0) ((L 1).castLE hsub0) d (Memref.whole main_v26_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (900 + dlo (wid L) 25) (k0_t151_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t151_loop L) hok init body >>= kk) Q := by
  have htr := t151_trips L
  have h1 := dlo_le_dhi (wid L) 25
  have h2 := dhi_le (wid L) 25
  exact field_loop (F := F) ((L 0).castLE hcore0) ((L 1).castLE hsub0) defs d (Memref.whole main_v26_scv : Memref sig .scVector .hbm S36x100000 .f32) (Memref.isWhole_whole _) s1 s2 s3 (k0_t151_loop L) hok init body
    (k0_off1851 L) inbT (k0_off1869 L) inbA (k0_off1887 L) inbB la lb hbody idxA idxB fa fb (fun b => fx (ix2 ⟨25, by decide⟩ b)) hla hlb hidx
    O W0 q ft ft (src_read_26 (F := F) d ((L 0).castLE hcore0) ((L 1).castLE hsub0) ft) Tset lo hi hT G g0 900 (dlo (wid L) 25) (900 + dlo (wid L) 25)
    rfl (by decide) (by omega) hlo hhi (off1851_eq L) (off1869_eq L) (off1887_eq L) hG kk Q

end Cert.Proof.BodyRow
-- ==== Proof.BodyGather.T2.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t2` (field 0, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t2_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v41 : BitVec 32) (c1_i32_21 : BitVec 32) (k0_t1 : Fin (k0_t1_loop i).trips) :
    Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1 = fun k acc => gTrip arg31 arg30 arg33 k k0_chk1.dec k0_chk2.dec k0_chk3.dec k0_chk4.dec k0_chk5.dec k0_chk6.dec k0_chk7.dec k0_chk8.dec k0_chk9.dec k0_chk10.dec k0_chk11.dec k0_chk12.dec k0_chk13.dec k0_chk14.dec k0_chk15.dec k0_chk16.dec 0#32 := rfl

/-- The gather loop `k0_t2` ahead of a continuation: the index and row buffers read (any share), every
    index word naming a row; the output buffer left reading the gather. -/
theorem loop_t2 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v41 : BitVec 32} {c1_i32_21 : BitVec 32} {k0_t1 : Fin (k0_t1_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t2_loop Gen.k0_t2_ok 0#32 (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) >>= kk) Q :=
  gLoop_wp 𝒱 bd E d _ _ arg31 arg30 arg33 Gen.k0_t2_ok 0#32 _ k0_chk1.dec k0_chk2.dec k0_chk3.dec k0_chk4.dec k0_chk5.dec k0_chk6.dec k0_chk7.dec k0_chk8.dec k0_chk9.dec k0_chk10.dec k0_chk11.dec k0_chk12.dec k0_chk13.dec k0_chk14.dec k0_chk15.dec k0_chk16.dec 0#32
    (fun k acc => congrFun (congrFun (t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) k) acc) kk qi qr fI fR fO hI

end Cert.KernelIdeal.Gather
-- ==== Proof.BodyGather.T3.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t3` (field 0, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t3_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v41 : BitVec 32) (c1_i32_21 : BitVec 32) (k0_t1 : Fin (k0_t1_loop i).trips) :
    Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1 = fun k acc => gTrip arg32 arg30 arg33 k k0_chk17.dec k0_chk18.dec k0_chk19.dec k0_chk20.dec k0_chk21.dec k0_chk22.dec k0_chk23.dec k0_chk24.dec k0_chk25.dec k0_chk26.dec k0_chk27.dec k0_chk28.dec k0_chk29.dec k0_chk30.dec k0_chk31.dec k0_chk32.dec 0#32 := rfl

/-- The gather loop `k0_t3` ahead of a continuation: the index and row buffers read (any share), every
    index word naming a row; the output buffer left reading the gather. -/
theorem loop_t3 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v41 : BitVec 32} {c1_i32_21 : BitVec 32} {k0_t1 : Fin (k0_t1_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t3_loop Gen.k0_t3_ok 0#32 (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) >>= kk) Q :=
  gLoop_wp 𝒱 bd E d _ _ arg32 arg30 arg33 Gen.k0_t3_ok 0#32 _ k0_chk17.dec k0_chk18.dec k0_chk19.dec k0_chk20.dec k0_chk21.dec k0_chk22.dec k0_chk23.dec k0_chk24.dec k0_chk25.dec k0_chk26.dec k0_chk27.dec k0_chk28.dec k0_chk29.dec k0_chk30.dec k0_chk31.dec k0_chk32.dec 0#32
    (fun k acc => congrFun (congrFun (t3_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) k) acc) kk qi qr fI fR fO hI

end Cert.KernelIdeal.Gather
-- ==== Proof.BodyGather.T8.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t8` (field 1, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t8_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v57 : BitVec 32) (c1_i32_32 : BitVec 32) (k0_t7 : Fin (k0_t7_loop i).trips) :
    Gen.k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7 = fun k acc => gTrip arg31 arg30 arg33 k k0_chk65.dec k0_chk66.dec k0_chk67.dec k0_chk68.dec k0_chk69.dec k0_chk70.dec k0_chk71.dec k0_chk72.dec k0_chk73.dec k0_chk74.dec k0_chk75.dec k0_chk76.dec k0_chk77.dec k0_chk78.dec k0_chk79.dec k0_chk80.dec 0#32 := rfl

/-- The gather loop `k0_t8` ahead of a continuation: the index and row buffers read (any share), every
    index word naming a row; the output buffer left reading the gather. -/
theorem loop_t8 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v57 : BitVec 32} {c1_i32_32 : BitVec 32} {k0_t7 : Fin (k0_t7_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t8_loop Gen.k0_t8_ok 0#32 (Gen.k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) >>= kk) Q :=
  gLoop_wp 𝒱 bd E d _ _ arg31 arg30 arg33 Gen.k0_t8_ok 0#32 _ k0_chk65.dec k0_chk66.dec k0_chk67.dec k0_chk68.dec k0_chk69.dec k0_chk70.dec k0_chk71.dec k0_chk72.dec k0_chk73.dec k0_chk74.dec k0_chk75.dec k0_chk76.dec k0_chk77.dec k0_chk78.dec k0_chk79.dec k0_chk80.dec 0#32
    (fun k acc => congrFun (congrFun (t8_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) k) acc) kk qi qr fI fR fO hI

end Cert.KernelIdeal.Gather
-- ==== Proof.BodyGather.T9.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t9` (field 1, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t9_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v57 : BitVec 32) (c1_i32_32 : BitVec 32) (k0_t7 : Fin (k0_t7_loop i).trips) :
    Gen.k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7 = fun k acc => gTrip arg32 arg30 arg33 k k0_chk81.dec k0_chk82.dec k0_chk83.dec k0_chk84.dec k0_chk85.dec k0_chk86.dec k0_chk87.dec k0_chk88.dec k0_chk89.dec k0_chk90.dec k0_chk91.dec k0_chk92.dec k0_chk93.dec k0_chk94.dec k0_chk95.dec k0_chk96.dec 0#32 := rfl

/-- The gather loop `k0_t9` ahead of a continuation: the index and row buffers read (any share), every
    index word naming a row; the output buffer left reading the gather. -/
theorem loop_t9 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v57 : BitVec 32} {c1_i32_32 : BitVec 32} {k0_t7 : Fin (k0_t7_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t9_loop Gen.k0_t9_ok 0#32 (Gen.k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) >>= kk) Q :=
  gLoop_wp 𝒱 bd E d _ _ arg32 arg30 arg33 Gen.k0_t9_ok 0#32 _ k0_chk81.dec k0_chk82.dec k0_chk83.dec k0_chk84.dec k0_chk85.dec k0_chk86.dec k0_chk87.dec k0_chk88.dec k0_chk89.dec k0_chk90.dec k0_chk91.dec k0_chk92.dec k0_chk93.dec k0_chk94.dec k0_chk95.dec k0_chk96.dec 0#32
    (fun k acc => congrFun (congrFun (t9_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) k) acc) kk qi qr fI fR fO hI

end Cert.KernelIdeal.Gather
-- ==== Proof.BodyGather.T14.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t14` (field 2, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t14_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v73 : BitVec 32) (c1_i32_42 : BitVec 32) (k0_t13 : Fin (k0_t13_loop i).trips) :
    Gen.k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13 = fun k acc => gTrip arg31 arg30 arg33 k k0_chk129.dec k0_chk130.dec k0_chk131.dec k0_chk132.dec k0_chk133.dec k0_chk134.dec k0_chk135.dec k0_chk136.dec k0_chk137.dec k0_chk138.dec k0_chk139.dec k0_chk140.dec k0_chk141.dec k0_chk142.dec k0_chk143.dec k0_chk144.dec 0#32 := rfl

/-- The gather loop `k0_t14` ahead of a continuation: the index and row buffers read (any share), every
    index word naming a row; the output buffer left reading the gather. -/
theorem loop_t14 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v73 : BitVec 32} {c1_i32_42 : BitVec 32} {k0_t13 : Fin (k0_t13_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t14_loop Gen.k0_t14_ok 0#32 (Gen.k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) >>= kk) Q :=
  gLoop_wp 𝒱 bd E d _ _ arg31 arg30 arg33 Gen.k0_t14_ok 0#32 _ k0_chk129.dec k0_chk130.dec k0_chk131.dec k0_chk132.dec k0_chk133.dec k0_chk134.dec k0_chk135.dec k0_chk136.dec k0_chk137.dec k0_chk138.dec k0_chk139.dec k0_chk140.dec k0_chk141.dec k0_chk142.dec k0_chk143.dec k0_chk144.dec 0#32
    (fun k acc => congrFun (congrFun (t14_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) k) acc) kk qi qr fI fR fO hI

end Cert.KernelIdeal.Gather
-- ==== Proof.BodyGather.T15.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t15` (field 2, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t15_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v73 : BitVec 32) (c1_i32_42 : BitVec 32) (k0_t13 : Fin (k0_t13_loop i).trips) :
    Gen.k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13 = fun k acc => gTrip arg32 arg30 arg33 k k0_chk145.dec k0_chk146.dec k0_chk147.dec k0_chk148.dec k0_chk149.dec k0_chk150.dec k0_chk151.dec k0_chk152.dec k0_chk153.dec k0_chk154.dec k0_chk155.dec k0_chk156.dec k0_chk157.dec k0_chk158.dec k0_chk159.dec k0_chk160.dec 0#32 := rfl

/-- The gather loop `k0_t15` ahead of a continuation: the index and row buffers read (any share), every
    index word naming a row; the output buffer left reading the gather. -/
theorem loop_t15 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v73 : BitVec 32} {c1_i32_42 : BitVec 32} {k0_t13 : Fin (k0_t13_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t15_loop Gen.k0_t15_ok 0#32 (Gen.k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) >>= kk) Q :=
  gLoop_wp 𝒱 bd E d _ _ arg32 arg30 arg33 Gen.k0_t15_ok 0#32 _ k0_chk145.dec k0_chk146.dec k0_chk147.dec k0_chk148.dec k0_chk149.dec k0_chk150.dec k0_chk151.dec k0_chk152.dec k0_chk153.dec k0_chk154.dec k0_chk155.dec k0_chk156.dec k0_chk157.dec k0_chk158.dec k0_chk159.dec k0_chk160.dec 0#32
    (fun k acc => congrFun (congrFun (t15_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) k) acc) kk qi qr fI fR fO hI

end Cert.KernelIdeal.Gather
-- ==== Proof.BodyGather.T20.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t20` (field 3, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t20_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v89 : BitVec 32) (c1_i32_52 : BitVec 32) (k0_t19 : Fin (k0_t19_loop i).trips) :
    Gen.k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19 = fun k acc => gTrip arg31 arg30 arg33 k k0_chk193.dec k0_chk194.dec k0_chk195.dec k0_chk196.dec k0_chk197.dec k0_chk198.dec k0_chk199.dec k0_chk200.dec k0_chk201.dec k0_chk202.dec k0_chk203.dec k0_chk204.dec k0_chk205.dec k0_chk206.dec k0_chk207.dec k0_chk208.dec 0#32 := rfl

/-- The gather loop `k0_t20` ahead of a continuation: the index and row buffers read (any share), every
    index word naming a row; the output buffer left reading the gather. -/
theorem loop_t20 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v89 : BitVec 32} {c1_i32_52 : BitVec 32} {k0_t19 : Fin (k0_t19_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t20_loop Gen.k0_t20_ok 0#32 (Gen.k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) >>= kk) Q :=
  gLoop_wp 𝒱 bd E d _ _ arg31 arg30 arg33 Gen.k0_t20_ok 0#32 _ k0_chk193.dec k0_chk194.dec k0_chk195.dec k0_chk196.dec k0_chk197.dec k0_chk198.dec k0_chk199.dec k0_chk200.dec k0_chk201.dec k0_chk202.dec k0_chk203.dec k0_chk204.dec k0_chk205.dec k0_chk206.dec k0_chk207.dec k0_chk208.dec 0#32
    (fun k acc => congrFun (congrFun (t20_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) k) acc) kk qi qr fI fR fO hI

end Cert.KernelIdeal.Gather
-- ==== Proof.BodyGather.T21.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t21` (field 3, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t21_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v89 : BitVec 32) (c1_i32_52 : BitVec 32) (k0_t19 : Fin (k0_t19_loop i).trips) :
    Gen.k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19 = fun k acc => gTrip arg32 arg30 arg33 k k0_chk209.dec k0_chk210.dec k0_chk211.dec k0_chk212.dec k0_chk213.dec k0_chk214.dec k0_chk215.dec k0_chk216.dec k0_chk217.dec k0_chk218.dec k0_chk219.dec k0_chk220.dec k0_chk221.dec k0_chk222.dec k0_chk223.dec k0_chk224.dec 0#32 := rfl

/-- The gather loop `k0_t21` ahead of a continuation: the index and row buffers read (any share), every
    index word naming a row; the output buffer left reading the gather. -/
theorem loop_t21 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v89 : BitVec 32} {c1_i32_52 : BitVec 32} {k0_t19 : Fin (k0_t19_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t21_loop Gen.k0_t21_ok 0#32 (Gen.k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) >>= kk) Q :=
  gLoop_wp 𝒱 bd E d _ _ arg32 arg30 arg33 Gen.k0_t21_ok 0#32 _ k0_chk209.dec k0_chk210.dec k0_chk211.dec k0_chk212.dec k0_chk213.dec k0_chk214.dec k0_chk215.dec k0_chk216.dec k0_chk217.dec k0_chk218.dec k0_chk219.dec k0_chk220.dec k0_chk221.dec k0_chk222.dec k0_chk223.dec k0_chk224.dec 0#32
    (fun k acc => congrFun (congrFun (t21_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) k) acc) kk qi qr fI fR fO hI

end Cert.KernelIdeal.Gather
-- ==== Proof.BodyGather.T26.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t26` (field 4, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t26_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v105 : BitVec 32) (c1_i32_62 : BitVec 32) (k0_t25 : Fin (k0_t25_loop i).trips) :
    Gen.k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25 = fun k acc => gTrip arg31 arg30 arg33 k k0_chk257.dec k0_chk258.dec k0_chk259.dec k0_chk260.dec k0_chk261.dec k0_chk262.dec k0_chk263.dec k0_chk264.dec k0_chk265.dec k0_chk266.dec k0_chk267.dec k0_chk268.dec k0_chk269.dec k0_chk270.dec k0_chk271.dec k0_chk272.dec 0#32 := rfl

/-- The gather loop `k0_t26` ahead of a continuation: the index and row buffers read (any share), every
    index word naming a row; the output buffer left reading the gather. -/
theorem loop_t26 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v105 : BitVec 32} {c1_i32_62 : BitVec 32} {k0_t25 : Fin (k0_t25_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t26_loop Gen.k0_t26_ok 0#32 (Gen.k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) >>= kk) Q :=
  gLoop_wp 𝒱 bd E d _ _ arg31 arg30 arg33 Gen.k0_t26_ok 0#32 _ k0_chk257.dec k0_chk258.dec k0_chk259.dec k0_chk260.dec k0_chk261.dec k0_chk262.dec k0_chk263.dec k0_chk264.dec k0_chk265.dec k0_chk266.dec k0_chk267.dec k0_chk268.dec k0_chk269.dec k0_chk270.dec k0_chk271.dec k0_chk272.dec 0#32
    (fun k acc => congrFun (congrFun (t26_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) k) acc) kk qi qr fI fR fO hI

end Cert.KernelIdeal.Gather
-- ==== Proof.BodyGather.T27.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t27` (field 4, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t27_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v105 : BitVec 32) (c1_i32_62 : BitVec 32) (k0_t25 : Fin (k0_t25_loop i).trips) :
    Gen.k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25 = fun k acc => gTrip arg32 arg30 arg33 k k0_chk273.dec k0_chk274.dec k0_chk275.dec k0_chk276.dec k0_chk277.dec k0_chk278.dec k0_chk279.dec k0_chk280.dec k0_chk281.dec k0_chk282.dec k0_chk283.dec k0_chk284.dec k0_chk285.dec k0_chk286.dec k0_chk287.dec k0_chk288.dec 0#32 := rfl

/-- The gather loop `k0_t27` ahead of a continuation: the index and row buffers read (any share), every
    index word naming a row; the output buffer left reading the gather. -/
theorem loop_t27 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v105 : BitVec 32} {c1_i32_62 : BitVec 32} {k0_t25 : Fin (k0_t25_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t27_loop Gen.k0_t27_ok 0#32 (Gen.k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) >>= kk) Q :=
  gLoop_wp 𝒱 bd E d _ _ arg32 arg30 arg33 Gen.k0_t27_ok 0#32 _ k0_chk273.dec k0_chk274.dec k0_chk275.dec k0_chk276.dec k0_chk277.dec k0_chk278.dec k0_chk279.dec k0_chk280.dec k0_chk281.dec k0_chk282.dec k0_chk283.dec k0_chk284.dec k0_chk285.dec k0_chk286.dec k0_chk287.dec k0_chk288.dec 0#32
    (fun k acc => congrFun (congrFun (t27_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) k) acc) kk qi qr fI fR fO hI

end Cert.KernelIdeal.Gather
-- ==== Proof.BodyGather.T32.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t32` (field 5, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t32_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v121 : BitVec 32) (c1_i32_72 : BitVec 32) (k0_t31 : Fin (k0_t31_loop i).trips) :
    Gen.k0_t32_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31 = fun k acc => gTrip arg31 arg30 arg33 k k0_chk321.dec k0_chk322.dec k0_chk323.dec k0_chk324.dec k0_chk325.dec k0_chk326.dec k0_chk327.dec k0_chk328.dec k0_chk329.dec k0_chk330.dec k0_chk331.dec k0_chk332.dec k0_chk333.dec k0_chk334.dec k0_chk335.dec k0_chk336.dec 0#32 := rfl

/-- The gather loop `k0_t32` ahead of a continuation: the index and row buffers read (any share), every
    index word naming a row; the output buffer left reading the gather. -/
theorem loop_t32 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v121 : BitVec 32} {c1_i32_72 : BitVec 32} {k0_t31 : Fin (k0_t31_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t32_loop Gen.k0_t32_ok 0#32 (Gen.k0_t32_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) >>= kk) Q :=
  gLoop_wp 𝒱 bd E d _ _ arg31 arg30 arg33 Gen.k0_t32_ok 0#32 _ k0_chk321.dec k0_chk322.dec k0_chk323.dec k0_chk324.dec k0_chk325.dec k0_chk326.dec k0_chk327.dec k0_chk328.dec k0_chk329.dec k0_chk330.dec k0_chk331.dec k0_chk332.dec k0_chk333.dec k0_chk334.dec k0_chk335.dec k0_chk336.dec 0#32
    (fun k acc => congrFun (congrFun (t32_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) k) acc) kk qi qr fI fR fO hI

end Cert.KernelIdeal.Gather
-- ==== Proof.BodyGather.T33.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t33` (field 5, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t33_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v121 : BitVec 32) (c1_i32_72 : BitVec 32) (k0_t31 : Fin (k0_t31_loop i).trips) :
    Gen.k0_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31 = fun k acc => gTrip arg32 arg30 arg33 k k0_chk337.dec k0_chk338.dec k0_chk339.dec k0_chk340.dec k0_chk341.dec k0_chk342.dec k0_chk343.dec k0_chk344.dec k0_chk345.dec k0_chk346.dec k0_chk347.dec k0_chk348.dec k0_chk349.dec k0_chk350.dec k0_chk351.dec k0_chk352.dec 0#32 := rfl

/-- The gather loop `k0_t33` ahead of a continuation: the index and row buffers read (any share), every
    index word naming a row; the output buffer left reading the gather. -/
theorem loop_t33 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v121 : BitVec 32} {c1_i32_72 : BitVec 32} {k0_t31 : Fin (k0_t31_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t33_loop Gen.k0_t33_ok 0#32 (Gen.k0_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) >>= kk) Q :=
  gLoop_wp 𝒱 bd E d _ _ arg32 arg30 arg33 Gen.k0_t33_ok 0#32 _ k0_chk337.dec k0_chk338.dec k0_chk339.dec k0_chk340.dec k0_chk341.dec k0_chk342.dec k0_chk343.dec k0_chk344.dec k0_chk345.dec k0_chk346.dec k0_chk347.dec k0_chk348.dec k0_chk349.dec k0_chk350.dec k0_chk351.dec k0_chk352.dec 0#32
    (fun k acc => congrFun (congrFun (t33_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) k) acc) kk qi qr fI fR fO hI

end Cert.KernelIdeal.Gather
-- ==== Proof.BodyGather.T38.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t38` (field 6, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t38_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v137 : BitVec 32) (c1_i32_82 : BitVec 32) (k0_t37 : Fin (k0_t37_loop i).trips) :
    Gen.k0_t38_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37 = fun k acc => gTrip arg31 arg30 arg33 k k0_chk385.dec k0_chk386.dec k0_chk387.dec k0_chk388.dec k0_chk389.dec k0_chk390.dec k0_chk391.dec k0_chk392.dec k0_chk393.dec k0_chk394.dec k0_chk395.dec k0_chk396.dec k0_chk397.dec k0_chk398.dec k0_chk399.dec k0_chk400.dec 0#32 := rfl

/-- The gather loop `k0_t38` ahead of a continuation: the index and row buffers read (any share), every
    index word naming a row; the output buffer left reading the gather. -/
theorem loop_t38 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v137 : BitVec 32} {c1_i32_82 : BitVec 32} {k0_t37 : Fin (k0_t37_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t38_loop Gen.k0_t38_ok 0#32 (Gen.k0_t38_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) >>= kk) Q :=
  gLoop_wp 𝒱 bd E d _ _ arg31 arg30 arg33 Gen.k0_t38_ok 0#32 _ k0_chk385.dec k0_chk386.dec k0_chk387.dec k0_chk388.dec k0_chk389.dec k0_chk390.dec k0_chk391.dec k0_chk392.dec k0_chk393.dec k0_chk394.dec k0_chk395.dec k0_chk396.dec k0_chk397.dec k0_chk398.dec k0_chk399.dec k0_chk400.dec 0#32
    (fun k acc => congrFun (congrFun (t38_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) k) acc) kk qi qr fI fR fO hI

end Cert.KernelIdeal.Gather
-- ==== Proof.BodyGather.T39.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t39` (field 6, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t39_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v137 : BitVec 32) (c1_i32_82 : BitVec 32) (k0_t37 : Fin (k0_t37_loop i).trips) :
    Gen.k0_t39_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37 = fun k acc => gTrip arg32 arg30 arg33 k k0_chk401.dec k0_chk402.dec k0_chk403.dec k0_chk404.dec k0_chk405.dec k0_chk406.dec k0_chk407.dec k0_chk408.dec k0_chk409.dec k0_chk410.dec k0_chk411.dec k0_chk412.dec k0_chk413.dec k0_chk414.dec k0_chk415.dec k0_chk416.dec 0#32 := rfl

/-- The gather loop `k0_t39` ahead of a continuation: the index and row buffers read (any share), every
    index word naming a row; the output buffer left reading the gather. -/
theorem loop_t39 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v137 : BitVec 32} {c1_i32_82 : BitVec 32} {k0_t37 : Fin (k0_t37_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t39_loop Gen.k0_t39_ok 0#32 (Gen.k0_t39_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) >>= kk) Q :=
  gLoop_wp 𝒱 bd E d _ _ arg32 arg30 arg33 Gen.k0_t39_ok 0#32 _ k0_chk401.dec k0_chk402.dec k0_chk403.dec k0_chk404.dec k0_chk405.dec k0_chk406.dec k0_chk407.dec k0_chk408.dec k0_chk409.dec k0_chk410.dec k0_chk411.dec k0_chk412.dec k0_chk413.dec k0_chk414.dec k0_chk415.dec k0_chk416.dec 0#32
    (fun k acc => congrFun (congrFun (t39_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) k) acc) kk qi qr fI fR fO hI

end Cert.KernelIdeal.Gather
-- ==== Proof.BodyGather.T44.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t44` (field 7, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t44_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v153 : BitVec 32) (c1_i32_92 : BitVec 32) (k0_t43 : Fin (k0_t43_loop i).trips) :
    Gen.k0_t44_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43 = fun k acc => gTrip arg31 arg30 arg33 k k0_chk449.dec k0_chk450.dec k0_chk451.dec k0_chk452.dec k0_chk453.dec k0_chk454.dec k0_chk455.dec k0_chk456.dec k0_chk457.dec k0_chk458.dec k0_chk459.dec k0_chk460.dec k0_chk461.dec k0_chk462.dec k0_chk463.dec k0_chk464.dec 0#32 := rfl

/-- The gather loop `k0_t44` ahead of a continuation: the index and row buffers read (any share), every
    index word naming a row; the output buffer left reading the gather. -/
theorem loop_t44 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v153 : BitVec 32} {c1_i32_92 : BitVec 32} {k0_t43 : Fin (k0_t43_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t44_loop Gen.k0_t44_ok 0#32 (Gen.k0_t44_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) >>= kk) Q :=
  gLoop_wp 𝒱 bd E d _ _ arg31 arg30 arg33 Gen.k0_t44_ok 0#32 _ k0_chk449.dec k0_chk450.dec k0_chk451.dec k0_chk452.dec k0_chk453.dec k0_chk454.dec k0_chk455.dec k0_chk456.dec k0_chk457.dec k0_chk458.dec k0_chk459.dec k0_chk460.dec k0_chk461.dec k0_chk462.dec k0_chk463.dec k0_chk464.dec 0#32
    (fun k acc => congrFun (congrFun (t44_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) k) acc) kk qi qr fI fR fO hI

end Cert.KernelIdeal.Gather
-- ==== Proof.BodyGather.T45.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t45` (field 7, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t45_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v153 : BitVec 32) (c1_i32_92 : BitVec 32) (k0_t43 : Fin (k0_t43_loop i).trips) :
    Gen.k0_t45_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43 = fun k acc => gTrip arg32 arg30 arg33 k k0_chk465.dec k0_chk466.dec k0_chk467.dec k0_chk468.dec k0_chk469.dec k0_chk470.dec k0_chk471.dec k0_chk472.dec k0_chk473.dec k0_chk474.dec k0_chk475.dec k0_chk476.dec k0_chk477.dec k0_chk478.dec k0_chk479.dec k0_chk480.dec 0#32 := rfl

/-- The gather loop `k0_t45` ahead of a continuation: the index and row buffers read (any share), every
    index word naming a row; the output buffer left reading the gather. -/
theorem loop_t45 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v153 : BitVec 32} {c1_i32_92 : BitVec 32} {k0_t43 : Fin (k0_t43_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t45_loop Gen.k0_t45_ok 0#32 (Gen.k0_t45_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) >>= kk) Q :=
  gLoop_wp 𝒱 bd E d _ _ arg32 arg30 arg33 Gen.k0_t45_ok 0#32 _ k0_chk465.dec k0_chk466.dec k0_chk467.dec k0_chk468.dec k0_chk469.dec k0_chk470.dec k0_chk471.dec k0_chk472.dec k0_chk473.dec k0_chk474.dec k0_chk475.dec k0_chk476.dec k0_chk477.dec k0_chk478.dec k0_chk479.dec k0_chk480.dec 0#32
    (fun k acc => congrFun (congrFun (t45_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) k) acc) kk qi qr fI fR fO hI

end Cert.KernelIdeal.Gather
-- ==== Proof.BodyGather.T50.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t50` (field 8, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t50_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v169 : BitVec 32) (c1_i32_102 : BitVec 32) (k0_t49 : Fin (k0_t49_loop i).trips) :
    Gen.k0_t50_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49 = fun k acc => gTrip arg31 arg30 arg33 k k0_chk513.dec k0_chk514.dec k0_chk515.dec k0_chk516.dec k0_chk517.dec k0_chk518.dec k0_chk519.dec k0_chk520.dec k0_chk521.dec k0_chk522.dec k0_chk523.dec k0_chk524.dec k0_chk525.dec k0_chk526.dec k0_chk527.dec k0_chk528.dec 0#32 := rfl

/-- The gather loop `k0_t50` ahead of a continuation: the index and row buffers read (any share), every
    index word naming a row; the output buffer left reading the gather. -/
theorem loop_t50 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v169 : BitVec 32} {c1_i32_102 : BitVec 32} {k0_t49 : Fin (k0_t49_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t50_loop Gen.k0_t50_ok 0#32 (Gen.k0_t50_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) >>= kk) Q :=
  gLoop_wp 𝒱 bd E d _ _ arg31 arg30 arg33 Gen.k0_t50_ok 0#32 _ k0_chk513.dec k0_chk514.dec k0_chk515.dec k0_chk516.dec k0_chk517.dec k0_chk518.dec k0_chk519.dec k0_chk520.dec k0_chk521.dec k0_chk522.dec k0_chk523.dec k0_chk524.dec k0_chk525.dec k0_chk526.dec k0_chk527.dec k0_chk528.dec 0#32
    (fun k acc => congrFun (congrFun (t50_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) k) acc) kk qi qr fI fR fO hI

end Cert.KernelIdeal.Gather
-- ==== Proof.BodyGather.T51.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t51` (field 8, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t51_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v169 : BitVec 32) (c1_i32_102 : BitVec 32) (k0_t49 : Fin (k0_t49_loop i).trips) :
    Gen.k0_t51_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49 = fun k acc => gTrip arg32 arg30 arg33 k k0_chk529.dec k0_chk530.dec k0_chk531.dec k0_chk532.dec k0_chk533.dec k0_chk534.dec k0_chk535.dec k0_chk536.dec k0_chk537.dec k0_chk538.dec k0_chk539.dec k0_chk540.dec k0_chk541.dec k0_chk542.dec k0_chk543.dec k0_chk544.dec 0#32 := rfl

/-- The gather loop `k0_t51` ahead of a continuation: the index and row buffers read (any share), every
    index word naming a row; the output buffer left reading the gather. -/
theorem loop_t51 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v169 : BitVec 32} {c1_i32_102 : BitVec 32} {k0_t49 : Fin (k0_t49_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t51_loop Gen.k0_t51_ok 0#32 (Gen.k0_t51_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) >>= kk) Q :=
  gLoop_wp 𝒱 bd E d _ _ arg32 arg30 arg33 Gen.k0_t51_ok 0#32 _ k0_chk529.dec k0_chk530.dec k0_chk531.dec k0_chk532.dec k0_chk533.dec k0_chk534.dec k0_chk535.dec k0_chk536.dec k0_chk537.dec k0_chk538.dec k0_chk539.dec k0_chk540.dec k0_chk541.dec k0_chk542.dec k0_chk543.dec k0_chk544.dec 0#32
    (fun k acc => congrFun (congrFun (t51_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) k) acc) kk qi qr fI fR fO hI

end Cert.KernelIdeal.Gather
-- ==== Proof.BodyGather.T56.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t56` (field 9, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t56_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v185 : BitVec 32) (c1_i32_112 : BitVec 32) (k0_t55 : Fin (k0_t55_loop i).trips) :
    Gen.k0_t56_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55 = fun k acc => gTrip arg31 arg30 arg33 k k0_chk577.dec k0_chk578.dec k0_chk579.dec k0_chk580.dec k0_chk581.dec k0_chk582.dec k0_chk583.dec k0_chk584.dec k0_chk585.dec k0_chk586.dec k0_chk587.dec k0_chk588.dec k0_chk589.dec k0_chk590.dec k0_chk591.dec k0_chk592.dec 0#32 := rfl

/-- The gather loop `k0_t56` ahead of a continuation: the index and row buffers read (any share), every
    index word naming a row; the output buffer left reading the gather. -/
theorem loop_t56 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v185 : BitVec 32} {c1_i32_112 : BitVec 32} {k0_t55 : Fin (k0_t55_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t56_loop Gen.k0_t56_ok 0#32 (Gen.k0_t56_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) >>= kk) Q :=
  gLoop_wp 𝒱 bd E d _ _ arg31 arg30 arg33 Gen.k0_t56_ok 0#32 _ k0_chk577.dec k0_chk578.dec k0_chk579.dec k0_chk580.dec k0_chk581.dec k0_chk582.dec k0_chk583.dec k0_chk584.dec k0_chk585.dec k0_chk586.dec k0_chk587.dec k0_chk588.dec k0_chk589.dec k0_chk590.dec k0_chk591.dec k0_chk592.dec 0#32
    (fun k acc => congrFun (congrFun (t56_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) k) acc) kk qi qr fI fR fO hI

end Cert.KernelIdeal.Gather
-- ==== Proof.BodyGather.T57.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t57` (field 9, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t57_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v185 : BitVec 32) (c1_i32_112 : BitVec 32) (k0_t55 : Fin (k0_t55_loop i).trips) :
    Gen.k0_t57_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55 = fun k acc => gTrip arg32 arg30 arg33 k k0_chk593.dec k0_chk594.dec k0_chk595.dec k0_chk596.dec k0_chk597.dec k0_chk598.dec k0_chk599.dec k0_chk600.dec k0_chk601.dec k0_chk602.dec k0_chk603.dec k0_chk604.dec k0_chk605.dec k0_chk606.dec k0_chk607.dec k0_chk608.dec 0#32 := rfl

/-- The gather loop `k0_t57` ahead of a continuation: the index and row buffers read (any share), every
    index word naming a row; the output buffer left reading the gather. -/
theorem loop_t57 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v185 : BitVec 32} {c1_i32_112 : BitVec 32} {k0_t55 : Fin (k0_t55_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t57_loop Gen.k0_t57_ok 0#32 (Gen.k0_t57_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) >>= kk) Q :=
  gLoop_wp 𝒱 bd E d _ _ arg32 arg30 arg33 Gen.k0_t57_ok 0#32 _ k0_chk593.dec k0_chk594.dec k0_chk595.dec k0_chk596.dec k0_chk597.dec k0_chk598.dec k0_chk599.dec k0_chk600.dec k0_chk601.dec k0_chk602.dec k0_chk603.dec k0_chk604.dec k0_chk605.dec k0_chk606.dec k0_chk607.dec k0_chk608.dec 0#32
    (fun k acc => congrFun (congrFun (t57_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) k) acc) kk qi qr fI fR fO hI

end Cert.KernelIdeal.Gather
-- ==== Proof.BodyGather.T62.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t62` (field 10, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t62_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v201 : BitVec 32) (c1_i32_122 : BitVec 32) (k0_t61 : Fin (k0_t61_loop i).trips) :
    Gen.k0_t62_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61 = fun k acc => gTrip arg31 arg30 arg33 k k0_chk641.dec k0_chk642.dec k0_chk643.dec k0_chk644.dec k0_chk645.dec k0_chk646.dec k0_chk647.dec k0_chk648.dec k0_chk649.dec k0_chk650.dec k0_chk651.dec k0_chk652.dec k0_chk653.dec k0_chk654.dec k0_chk655.dec k0_chk656.dec 0#32 := rfl

/-- The gather loop `k0_t62` ahead of a continuation: the index and row buffers read (any share), every
    index word naming a row; the output buffer left reading the gather. -/
theorem loop_t62 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v201 : BitVec 32} {c1_i32_122 : BitVec 32} {k0_t61 : Fin (k0_t61_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t62_loop Gen.k0_t62_ok 0#32 (Gen.k0_t62_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) >>= kk) Q :=
  gLoop_wp 𝒱 bd E d _ _ arg31 arg30 arg33 Gen.k0_t62_ok 0#32 _ k0_chk641.dec k0_chk642.dec k0_chk643.dec k0_chk644.dec k0_chk645.dec k0_chk646.dec k0_chk647.dec k0_chk648.dec k0_chk649.dec k0_chk650.dec k0_chk651.dec k0_chk652.dec k0_chk653.dec k0_chk654.dec k0_chk655.dec k0_chk656.dec 0#32
    (fun k acc => congrFun (congrFun (t62_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) k) acc) kk qi qr fI fR fO hI

end Cert.KernelIdeal.Gather
-- ==== Proof.BodyGather.T63.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t63` (field 10, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t63_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v201 : BitVec 32) (c1_i32_122 : BitVec 32) (k0_t61 : Fin (k0_t61_loop i).trips) :
    Gen.k0_t63_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61 = fun k acc => gTrip arg32 arg30 arg33 k k0_chk657.dec k0_chk658.dec k0_chk659.dec k0_chk660.dec k0_chk661.dec k0_chk662.dec k0_chk663.dec k0_chk664.dec k0_chk665.dec k0_chk666.dec k0_chk667.dec k0_chk668.dec k0_chk669.dec k0_chk670.dec k0_chk671.dec k0_chk672.dec 0#32 := rfl

/-- The gather loop `k0_t63` ahead of a continuation: the index and row buffers read (any share), every
    index word naming a row; the output buffer left reading the gather. -/
theorem loop_t63 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v201 : BitVec 32} {c1_i32_122 : BitVec 32} {k0_t61 : Fin (k0_t61_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t63_loop Gen.k0_t63_ok 0#32 (Gen.k0_t63_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) >>= kk) Q :=
  gLoop_wp 𝒱 bd E d _ _ arg32 arg30 arg33 Gen.k0_t63_ok 0#32 _ k0_chk657.dec k0_chk658.dec k0_chk659.dec k0_chk660.dec k0_chk661.dec k0_chk662.dec k0_chk663.dec k0_chk664.dec k0_chk665.dec k0_chk666.dec k0_chk667.dec k0_chk668.dec k0_chk669.dec k0_chk670.dec k0_chk671.dec k0_chk672.dec 0#32
    (fun k acc => congrFun (congrFun (t63_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) k) acc) kk qi qr fI fR fO hI

end Cert.KernelIdeal.Gather
-- ==== Proof.BodyGather.T68.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t68` (field 11, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t68_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v217 : BitVec 32) (c1_i32_132 : BitVec 32) (k0_t67 : Fin (k0_t67_loop i).trips) :
    Gen.k0_t68_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67 = fun k acc => gTrip arg31 arg30 arg33 k k0_chk705.dec k0_chk706.dec k0_chk707.dec k0_chk708.dec k0_chk709.dec k0_chk710.dec k0_chk711.dec k0_chk712.dec k0_chk713.dec k0_chk714.dec k0_chk715.dec k0_chk716.dec k0_chk717.dec k0_chk718.dec k0_chk719.dec k0_chk720.dec 0#32 := rfl

/-- The gather loop `k0_t68` ahead of a continuation: the index and row buffers read (any share), every
    index word naming a row; the output buffer left reading the gather. -/
theorem loop_t68 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v217 : BitVec 32} {c1_i32_132 : BitVec 32} {k0_t67 : Fin (k0_t67_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t68_loop Gen.k0_t68_ok 0#32 (Gen.k0_t68_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) >>= kk) Q :=
  gLoop_wp 𝒱 bd E d _ _ arg31 arg30 arg33 Gen.k0_t68_ok 0#32 _ k0_chk705.dec k0_chk706.dec k0_chk707.dec k0_chk708.dec k0_chk709.dec k0_chk710.dec k0_chk711.dec k0_chk712.dec k0_chk713.dec k0_chk714.dec k0_chk715.dec k0_chk716.dec k0_chk717.dec k0_chk718.dec k0_chk719.dec k0_chk720.dec 0#32
    (fun k acc => congrFun (congrFun (t68_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) k) acc) kk qi qr fI fR fO hI

end Cert.KernelIdeal.Gather
-- ==== Proof.BodyGather.T69.lean ====
import proofs.«204037_g66941360275737_cont_sun_c4_657_24_alg».proof.Proof.Gen.KernelIdeal.Skeleton.P01
import proofs.«204037_g66941360275737_cont_sun_c4_657_24_alg».proof.Proof.BodyGather

/-!
# The gather loop `k0_t69` (field 11, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t69_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v217 : BitVec 32) (c1_i32_132 : BitVec 32) (k0_t67 : Fin (k0_t67_loop i).trips) :
    Gen.k0_t69_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67 = fun k acc => gTrip arg32 arg30 arg33 k k0_chk721.dec k0_chk722.dec k0_chk723.dec k0_chk724.dec k0_chk725.dec k0_chk726.dec k0_chk727.dec k0_chk728.dec k0_chk729.dec k0_chk730.dec k0_chk731.dec k0_chk732.dec k0_chk733.dec k0_chk734.dec k0_chk735.dec k0_chk736.dec 0#32 := rfl

/-- The gather loop `k0_t69` ahead of a continuation: the index and row buffers read (any share), every
    index word naming a row; the output buffer left reading the gather. -/
theorem loop_t69 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v217 : BitVec 32} {c1_i32_132 : BitVec 32} {k0_t67 : Fin (k0_t67_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t69_loop Gen.k0_t69_ok 0#32 (Gen.k0_t69_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) >>= kk) Q :=
  gLoop_wp 𝒱 bd E d _ _ arg32 arg30 arg33 Gen.k0_t69_ok 0#32 _ k0_chk721.dec k0_chk722.dec k0_chk723.dec k0_chk724.dec k0_chk725.dec k0_chk726.dec k0_chk727.dec k0_chk728.dec k0_chk729.dec k0_chk730.dec k0_chk731.dec k0_chk732.dec k0_chk733.dec k0_chk734.dec k0_chk735.dec k0_chk736.dec 0#32
    (fun k acc => congrFun (congrFun (t69_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) k) acc) kk qi qr fI fR fO hI

end Cert.KernelIdeal.Gather
-- ==== Proof.BodyGather.T74.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t74` (field 12, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t74_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v233 : BitVec 32) (c1_i32_142 : BitVec 32) (k0_t73 : Fin (k0_t73_loop i).trips) :
    Gen.k0_t74_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73 = fun k acc => gTrip arg31 arg30 arg33 k k0_chk769.dec k0_chk770.dec k0_chk771.dec k0_chk772.dec k0_chk773.dec k0_chk774.dec k0_chk775.dec k0_chk776.dec k0_chk777.dec k0_chk778.dec k0_chk779.dec k0_chk780.dec k0_chk781.dec k0_chk782.dec k0_chk783.dec k0_chk784.dec 0#32 := rfl

/-- The gather loop `k0_t74` ahead of a continuation: the index and row buffers read (any share), every
    index word naming a row; the output buffer left reading the gather. -/
theorem loop_t74 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v233 : BitVec 32} {c1_i32_142 : BitVec 32} {k0_t73 : Fin (k0_t73_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t74_loop Gen.k0_t74_ok 0#32 (Gen.k0_t74_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) >>= kk) Q :=
  gLoop_wp 𝒱 bd E d _ _ arg31 arg30 arg33 Gen.k0_t74_ok 0#32 _ k0_chk769.dec k0_chk770.dec k0_chk771.dec k0_chk772.dec k0_chk773.dec k0_chk774.dec k0_chk775.dec k0_chk776.dec k0_chk777.dec k0_chk778.dec k0_chk779.dec k0_chk780.dec k0_chk781.dec k0_chk782.dec k0_chk783.dec k0_chk784.dec 0#32
    (fun k acc => congrFun (congrFun (t74_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) k) acc) kk qi qr fI fR fO hI

end Cert.KernelIdeal.Gather
-- ==== Proof.BodyGather.T75.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t75` (field 12, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t75_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v233 : BitVec 32) (c1_i32_142 : BitVec 32) (k0_t73 : Fin (k0_t73_loop i).trips) :
    Gen.k0_t75_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73 = fun k acc => gTrip arg32 arg30 arg33 k k0_chk785.dec k0_chk786.dec k0_chk787.dec k0_chk788.dec k0_chk789.dec k0_chk790.dec k0_chk791.dec k0_chk792.dec k0_chk793.dec k0_chk794.dec k0_chk795.dec k0_chk796.dec k0_chk797.dec k0_chk798.dec k0_chk799.dec k0_chk800.dec 0#32 := rfl

/-- The gather loop `k0_t75` ahead of a continuation: the index and row buffers read (any share), every
    index word naming a row; the output buffer left reading the gather. -/
theorem loop_t75 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v233 : BitVec 32} {c1_i32_142 : BitVec 32} {k0_t73 : Fin (k0_t73_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t75_loop Gen.k0_t75_ok 0#32 (Gen.k0_t75_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) >>= kk) Q :=
  gLoop_wp 𝒱 bd E d _ _ arg32 arg30 arg33 Gen.k0_t75_ok 0#32 _ k0_chk785.dec k0_chk786.dec k0_chk787.dec k0_chk788.dec k0_chk789.dec k0_chk790.dec k0_chk791.dec k0_chk792.dec k0_chk793.dec k0_chk794.dec k0_chk795.dec k0_chk796.dec k0_chk797.dec k0_chk798.dec k0_chk799.dec k0_chk800.dec 0#32
    (fun k acc => congrFun (congrFun (t75_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) k) acc) kk qi qr fI fR fO hI

end Cert.KernelIdeal.Gather
-- ==== Proof.BodyGather.T80.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t80` (field 13, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t80_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v249 : BitVec 32) (c1_i32_152 : BitVec 32) (k0_t79 : Fin (k0_t79_loop i).trips) :
    Gen.k0_t80_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79 = fun k acc => gTrip arg31 arg30 arg33 k k0_chk833.dec k0_chk834.dec k0_chk835.dec k0_chk836.dec k0_chk837.dec k0_chk838.dec k0_chk839.dec k0_chk840.dec k0_chk841.dec k0_chk842.dec k0_chk843.dec k0_chk844.dec k0_chk845.dec k0_chk846.dec k0_chk847.dec k0_chk848.dec 0#32 := rfl

/-- The gather loop `k0_t80` ahead of a continuation: the index and row buffers read (any share), every
    index word naming a row; the output buffer left reading the gather. -/
theorem loop_t80 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v249 : BitVec 32} {c1_i32_152 : BitVec 32} {k0_t79 : Fin (k0_t79_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t80_loop Gen.k0_t80_ok 0#32 (Gen.k0_t80_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) >>= kk) Q :=
  gLoop_wp 𝒱 bd E d _ _ arg31 arg30 arg33 Gen.k0_t80_ok 0#32 _ k0_chk833.dec k0_chk834.dec k0_chk835.dec k0_chk836.dec k0_chk837.dec k0_chk838.dec k0_chk839.dec k0_chk840.dec k0_chk841.dec k0_chk842.dec k0_chk843.dec k0_chk844.dec k0_chk845.dec k0_chk846.dec k0_chk847.dec k0_chk848.dec 0#32
    (fun k acc => congrFun (congrFun (t80_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) k) acc) kk qi qr fI fR fO hI

end Cert.KernelIdeal.Gather
-- ==== Proof.BodyGather.T81.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t81` (field 13, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t81_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v249 : BitVec 32) (c1_i32_152 : BitVec 32) (k0_t79 : Fin (k0_t79_loop i).trips) :
    Gen.k0_t81_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79 = fun k acc => gTrip arg32 arg30 arg33 k k0_chk849.dec k0_chk850.dec k0_chk851.dec k0_chk852.dec k0_chk853.dec k0_chk854.dec k0_chk855.dec k0_chk856.dec k0_chk857.dec k0_chk858.dec k0_chk859.dec k0_chk860.dec k0_chk861.dec k0_chk862.dec k0_chk863.dec k0_chk864.dec 0#32 := rfl

/-- The gather loop `k0_t81` ahead of a continuation: the index and row buffers read (any share), every
    index word naming a row; the output buffer left reading the gather. -/
theorem loop_t81 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v249 : BitVec 32} {c1_i32_152 : BitVec 32} {k0_t79 : Fin (k0_t79_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t81_loop Gen.k0_t81_ok 0#32 (Gen.k0_t81_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) >>= kk) Q :=
  gLoop_wp 𝒱 bd E d _ _ arg32 arg30 arg33 Gen.k0_t81_ok 0#32 _ k0_chk849.dec k0_chk850.dec k0_chk851.dec k0_chk852.dec k0_chk853.dec k0_chk854.dec k0_chk855.dec k0_chk856.dec k0_chk857.dec k0_chk858.dec k0_chk859.dec k0_chk860.dec k0_chk861.dec k0_chk862.dec k0_chk863.dec k0_chk864.dec 0#32
    (fun k acc => congrFun (congrFun (t81_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) k) acc) kk qi qr fI fR fO hI

end Cert.KernelIdeal.Gather
-- ==== Proof.BodyGather.T86.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t86` (field 14, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t86_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v265 : BitVec 32) (c1_i32_162 : BitVec 32) (k0_t85 : Fin (k0_t85_loop i).trips) :
    Gen.k0_t86_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85 = fun k acc => gTrip arg31 arg30 arg33 k k0_chk897.dec k0_chk898.dec k0_chk899.dec k0_chk900.dec k0_chk901.dec k0_chk902.dec k0_chk903.dec k0_chk904.dec k0_chk905.dec k0_chk906.dec k0_chk907.dec k0_chk908.dec k0_chk909.dec k0_chk910.dec k0_chk911.dec k0_chk912.dec 0#32 := rfl

/-- The gather loop `k0_t86` ahead of a continuation: the index and row buffers read (any share), every
    index word naming a row; the output buffer left reading the gather. -/
theorem loop_t86 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v265 : BitVec 32} {c1_i32_162 : BitVec 32} {k0_t85 : Fin (k0_t85_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t86_loop Gen.k0_t86_ok 0#32 (Gen.k0_t86_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) >>= kk) Q :=
  gLoop_wp 𝒱 bd E d _ _ arg31 arg30 arg33 Gen.k0_t86_ok 0#32 _ k0_chk897.dec k0_chk898.dec k0_chk899.dec k0_chk900.dec k0_chk901.dec k0_chk902.dec k0_chk903.dec k0_chk904.dec k0_chk905.dec k0_chk906.dec k0_chk907.dec k0_chk908.dec k0_chk909.dec k0_chk910.dec k0_chk911.dec k0_chk912.dec 0#32
    (fun k acc => congrFun (congrFun (t86_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) k) acc) kk qi qr fI fR fO hI

end Cert.KernelIdeal.Gather
-- ==== Proof.BodyGather.T87.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t87` (field 14, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t87_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v265 : BitVec 32) (c1_i32_162 : BitVec 32) (k0_t85 : Fin (k0_t85_loop i).trips) :
    Gen.k0_t87_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85 = fun k acc => gTrip arg32 arg30 arg33 k k0_chk913.dec k0_chk914.dec k0_chk915.dec k0_chk916.dec k0_chk917.dec k0_chk918.dec k0_chk919.dec k0_chk920.dec k0_chk921.dec k0_chk922.dec k0_chk923.dec k0_chk924.dec k0_chk925.dec k0_chk926.dec k0_chk927.dec k0_chk928.dec 0#32 := rfl

/-- The gather loop `k0_t87` ahead of a continuation: the index and row buffers read (any share), every
    index word naming a row; the output buffer left reading the gather. -/
theorem loop_t87 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v265 : BitVec 32} {c1_i32_162 : BitVec 32} {k0_t85 : Fin (k0_t85_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t87_loop Gen.k0_t87_ok 0#32 (Gen.k0_t87_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) >>= kk) Q :=
  gLoop_wp 𝒱 bd E d _ _ arg32 arg30 arg33 Gen.k0_t87_ok 0#32 _ k0_chk913.dec k0_chk914.dec k0_chk915.dec k0_chk916.dec k0_chk917.dec k0_chk918.dec k0_chk919.dec k0_chk920.dec k0_chk921.dec k0_chk922.dec k0_chk923.dec k0_chk924.dec k0_chk925.dec k0_chk926.dec k0_chk927.dec k0_chk928.dec 0#32
    (fun k acc => congrFun (congrFun (t87_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) k) acc) kk qi qr fI fR fO hI

end Cert.KernelIdeal.Gather
-- ==== Proof.BodyGather.T92.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t92` (field 15, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t92_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v281 : BitVec 32) (c1_i32_172 : BitVec 32) (k0_t91 : Fin (k0_t91_loop i).trips) :
    Gen.k0_t92_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91 = fun k acc => gTrip arg31 arg30 arg33 k k0_chk961.dec k0_chk962.dec k0_chk963.dec k0_chk964.dec k0_chk965.dec k0_chk966.dec k0_chk967.dec k0_chk968.dec k0_chk969.dec k0_chk970.dec k0_chk971.dec k0_chk972.dec k0_chk973.dec k0_chk974.dec k0_chk975.dec k0_chk976.dec 0#32 := rfl

/-- The gather loop `k0_t92` ahead of a continuation: the index and row buffers read (any share), every
    index word naming a row; the output buffer left reading the gather. -/
theorem loop_t92 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v281 : BitVec 32} {c1_i32_172 : BitVec 32} {k0_t91 : Fin (k0_t91_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t92_loop Gen.k0_t92_ok 0#32 (Gen.k0_t92_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) >>= kk) Q :=
  gLoop_wp 𝒱 bd E d _ _ arg31 arg30 arg33 Gen.k0_t92_ok 0#32 _ k0_chk961.dec k0_chk962.dec k0_chk963.dec k0_chk964.dec k0_chk965.dec k0_chk966.dec k0_chk967.dec k0_chk968.dec k0_chk969.dec k0_chk970.dec k0_chk971.dec k0_chk972.dec k0_chk973.dec k0_chk974.dec k0_chk975.dec k0_chk976.dec 0#32
    (fun k acc => congrFun (congrFun (t92_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) k) acc) kk qi qr fI fR fO hI

end Cert.KernelIdeal.Gather
-- ==== Proof.BodyGather.T93.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t93` (field 15, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t93_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v281 : BitVec 32) (c1_i32_172 : BitVec 32) (k0_t91 : Fin (k0_t91_loop i).trips) :
    Gen.k0_t93_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91 = fun k acc => gTrip arg32 arg30 arg33 k k0_chk977.dec k0_chk978.dec k0_chk979.dec k0_chk980.dec k0_chk981.dec k0_chk982.dec k0_chk983.dec k0_chk984.dec k0_chk985.dec k0_chk986.dec k0_chk987.dec k0_chk988.dec k0_chk989.dec k0_chk990.dec k0_chk991.dec k0_chk992.dec 0#32 := rfl

/-- The gather loop `k0_t93` ahead of a continuation: the index and row buffers read (any share), every
    index word naming a row; the output buffer left reading the gather. -/
theorem loop_t93 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v281 : BitVec 32} {c1_i32_172 : BitVec 32} {k0_t91 : Fin (k0_t91_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t93_loop Gen.k0_t93_ok 0#32 (Gen.k0_t93_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) >>= kk) Q :=
  gLoop_wp 𝒱 bd E d _ _ arg32 arg30 arg33 Gen.k0_t93_ok 0#32 _ k0_chk977.dec k0_chk978.dec k0_chk979.dec k0_chk980.dec k0_chk981.dec k0_chk982.dec k0_chk983.dec k0_chk984.dec k0_chk985.dec k0_chk986.dec k0_chk987.dec k0_chk988.dec k0_chk989.dec k0_chk990.dec k0_chk991.dec k0_chk992.dec 0#32
    (fun k acc => congrFun (congrFun (t93_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) k) acc) kk qi qr fI fR fO hI

end Cert.KernelIdeal.Gather
-- ==== Proof.BodyGather.T98.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t98` (field 16, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t98_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v297 : BitVec 32) (c1_i32_182 : BitVec 32) (k0_t97 : Fin (k0_t97_loop i).trips) :
    Gen.k0_t98_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97 = fun k acc => gTrip arg31 arg30 arg33 k k0_chk1025.dec k0_chk1026.dec k0_chk1027.dec k0_chk1028.dec k0_chk1029.dec k0_chk1030.dec k0_chk1031.dec k0_chk1032.dec k0_chk1033.dec k0_chk1034.dec k0_chk1035.dec k0_chk1036.dec k0_chk1037.dec k0_chk1038.dec k0_chk1039.dec k0_chk1040.dec 0#32 := rfl

/-- The gather loop `k0_t98` ahead of a continuation: the index and row buffers read (any share), every
    index word naming a row; the output buffer left reading the gather. -/
theorem loop_t98 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v297 : BitVec 32} {c1_i32_182 : BitVec 32} {k0_t97 : Fin (k0_t97_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t98_loop Gen.k0_t98_ok 0#32 (Gen.k0_t98_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) >>= kk) Q :=
  gLoop_wp 𝒱 bd E d _ _ arg31 arg30 arg33 Gen.k0_t98_ok 0#32 _ k0_chk1025.dec k0_chk1026.dec k0_chk1027.dec k0_chk1028.dec k0_chk1029.dec k0_chk1030.dec k0_chk1031.dec k0_chk1032.dec k0_chk1033.dec k0_chk1034.dec k0_chk1035.dec k0_chk1036.dec k0_chk1037.dec k0_chk1038.dec k0_chk1039.dec k0_chk1040.dec 0#32
    (fun k acc => congrFun (congrFun (t98_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) k) acc) kk qi qr fI fR fO hI

end Cert.KernelIdeal.Gather
-- ==== Proof.BodyGather.T99.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t99` (field 16, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t99_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v297 : BitVec 32) (c1_i32_182 : BitVec 32) (k0_t97 : Fin (k0_t97_loop i).trips) :
    Gen.k0_t99_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97 = fun k acc => gTrip arg32 arg30 arg33 k k0_chk1041.dec k0_chk1042.dec k0_chk1043.dec k0_chk1044.dec k0_chk1045.dec k0_chk1046.dec k0_chk1047.dec k0_chk1048.dec k0_chk1049.dec k0_chk1050.dec k0_chk1051.dec k0_chk1052.dec k0_chk1053.dec k0_chk1054.dec k0_chk1055.dec k0_chk1056.dec 0#32 := rfl

/-- The gather loop `k0_t99` ahead of a continuation: the index and row buffers read (any share), every
    index word naming a row; the output buffer left reading the gather. -/
theorem loop_t99 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v297 : BitVec 32} {c1_i32_182 : BitVec 32} {k0_t97 : Fin (k0_t97_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t99_loop Gen.k0_t99_ok 0#32 (Gen.k0_t99_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) >>= kk) Q :=
  gLoop_wp 𝒱 bd E d _ _ arg32 arg30 arg33 Gen.k0_t99_ok 0#32 _ k0_chk1041.dec k0_chk1042.dec k0_chk1043.dec k0_chk1044.dec k0_chk1045.dec k0_chk1046.dec k0_chk1047.dec k0_chk1048.dec k0_chk1049.dec k0_chk1050.dec k0_chk1051.dec k0_chk1052.dec k0_chk1053.dec k0_chk1054.dec k0_chk1055.dec k0_chk1056.dec 0#32
    (fun k acc => congrFun (congrFun (t99_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) k) acc) kk qi qr fI fR fO hI

end Cert.KernelIdeal.Gather
-- ==== Proof.BodyGather.T104.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t104` (field 17, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t104_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v313 : BitVec 32) (c1_i32_192 : BitVec 32) (k0_t103 : Fin (k0_t103_loop i).trips) :
    Gen.k0_t104_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103 = fun k acc => gTrip arg31 arg30 arg33 k k0_chk1089.dec k0_chk1090.dec k0_chk1091.dec k0_chk1092.dec k0_chk1093.dec k0_chk1094.dec k0_chk1095.dec k0_chk1096.dec k0_chk1097.dec k0_chk1098.dec k0_chk1099.dec k0_chk1100.dec k0_chk1101.dec k0_chk1102.dec k0_chk1103.dec k0_chk1104.dec 0#32 := rfl

/-- The gather loop `k0_t104` ahead of a continuation: the index and row buffers read (any share), every
    index word naming a row; the output buffer left reading the gather. -/
theorem loop_t104 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v313 : BitVec 32} {c1_i32_192 : BitVec 32} {k0_t103 : Fin (k0_t103_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t104_loop Gen.k0_t104_ok 0#32 (Gen.k0_t104_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) >>= kk) Q :=
  gLoop_wp 𝒱 bd E d _ _ arg31 arg30 arg33 Gen.k0_t104_ok 0#32 _ k0_chk1089.dec k0_chk1090.dec k0_chk1091.dec k0_chk1092.dec k0_chk1093.dec k0_chk1094.dec k0_chk1095.dec k0_chk1096.dec k0_chk1097.dec k0_chk1098.dec k0_chk1099.dec k0_chk1100.dec k0_chk1101.dec k0_chk1102.dec k0_chk1103.dec k0_chk1104.dec 0#32
    (fun k acc => congrFun (congrFun (t104_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) k) acc) kk qi qr fI fR fO hI

end Cert.KernelIdeal.Gather
-- ==== Proof.BodyGather.T105.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t105` (field 17, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t105_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v313 : BitVec 32) (c1_i32_192 : BitVec 32) (k0_t103 : Fin (k0_t103_loop i).trips) :
    Gen.k0_t105_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103 = fun k acc => gTrip arg32 arg30 arg33 k k0_chk1105.dec k0_chk1106.dec k0_chk1107.dec k0_chk1108.dec k0_chk1109.dec k0_chk1110.dec k0_chk1111.dec k0_chk1112.dec k0_chk1113.dec k0_chk1114.dec k0_chk1115.dec k0_chk1116.dec k0_chk1117.dec k0_chk1118.dec k0_chk1119.dec k0_chk1120.dec 0#32 := rfl

/-- The gather loop `k0_t105` ahead of a continuation: the index and row buffers read (any share), every
    index word naming a row; the output buffer left reading the gather. -/
theorem loop_t105 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v313 : BitVec 32} {c1_i32_192 : BitVec 32} {k0_t103 : Fin (k0_t103_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t105_loop Gen.k0_t105_ok 0#32 (Gen.k0_t105_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) >>= kk) Q :=
  gLoop_wp 𝒱 bd E d _ _ arg32 arg30 arg33 Gen.k0_t105_ok 0#32 _ k0_chk1105.dec k0_chk1106.dec k0_chk1107.dec k0_chk1108.dec k0_chk1109.dec k0_chk1110.dec k0_chk1111.dec k0_chk1112.dec k0_chk1113.dec k0_chk1114.dec k0_chk1115.dec k0_chk1116.dec k0_chk1117.dec k0_chk1118.dec k0_chk1119.dec k0_chk1120.dec 0#32
    (fun k acc => congrFun (congrFun (t105_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) k) acc) kk qi qr fI fR fO hI

end Cert.KernelIdeal.Gather
-- ==== Proof.BodyGather.T110.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t110` (field 18, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t110_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v329 : BitVec 32) (c1_i32_202 : BitVec 32) (k0_t109 : Fin (k0_t109_loop i).trips) :
    Gen.k0_t110_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109 = fun k acc => gTrip arg31 arg30 arg33 k k0_chk1153.dec k0_chk1154.dec k0_chk1155.dec k0_chk1156.dec k0_chk1157.dec k0_chk1158.dec k0_chk1159.dec k0_chk1160.dec k0_chk1161.dec k0_chk1162.dec k0_chk1163.dec k0_chk1164.dec k0_chk1165.dec k0_chk1166.dec k0_chk1167.dec k0_chk1168.dec 0#32 := rfl

/-- The gather loop `k0_t110` ahead of a continuation: the index and row buffers read (any share), every
    index word naming a row; the output buffer left reading the gather. -/
theorem loop_t110 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v329 : BitVec 32} {c1_i32_202 : BitVec 32} {k0_t109 : Fin (k0_t109_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t110_loop Gen.k0_t110_ok 0#32 (Gen.k0_t110_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) >>= kk) Q :=
  gLoop_wp 𝒱 bd E d _ _ arg31 arg30 arg33 Gen.k0_t110_ok 0#32 _ k0_chk1153.dec k0_chk1154.dec k0_chk1155.dec k0_chk1156.dec k0_chk1157.dec k0_chk1158.dec k0_chk1159.dec k0_chk1160.dec k0_chk1161.dec k0_chk1162.dec k0_chk1163.dec k0_chk1164.dec k0_chk1165.dec k0_chk1166.dec k0_chk1167.dec k0_chk1168.dec 0#32
    (fun k acc => congrFun (congrFun (t110_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) k) acc) kk qi qr fI fR fO hI

end Cert.KernelIdeal.Gather
-- ==== Proof.BodyGather.T111.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t111` (field 18, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t111_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v329 : BitVec 32) (c1_i32_202 : BitVec 32) (k0_t109 : Fin (k0_t109_loop i).trips) :
    Gen.k0_t111_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109 = fun k acc => gTrip arg32 arg30 arg33 k k0_chk1169.dec k0_chk1170.dec k0_chk1171.dec k0_chk1172.dec k0_chk1173.dec k0_chk1174.dec k0_chk1175.dec k0_chk1176.dec k0_chk1177.dec k0_chk1178.dec k0_chk1179.dec k0_chk1180.dec k0_chk1181.dec k0_chk1182.dec k0_chk1183.dec k0_chk1184.dec 0#32 := rfl

/-- The gather loop `k0_t111` ahead of a continuation: the index and row buffers read (any share), every
    index word naming a row; the output buffer left reading the gather. -/
theorem loop_t111 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v329 : BitVec 32} {c1_i32_202 : BitVec 32} {k0_t109 : Fin (k0_t109_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t111_loop Gen.k0_t111_ok 0#32 (Gen.k0_t111_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) >>= kk) Q :=
  gLoop_wp 𝒱 bd E d _ _ arg32 arg30 arg33 Gen.k0_t111_ok 0#32 _ k0_chk1169.dec k0_chk1170.dec k0_chk1171.dec k0_chk1172.dec k0_chk1173.dec k0_chk1174.dec k0_chk1175.dec k0_chk1176.dec k0_chk1177.dec k0_chk1178.dec k0_chk1179.dec k0_chk1180.dec k0_chk1181.dec k0_chk1182.dec k0_chk1183.dec k0_chk1184.dec 0#32
    (fun k acc => congrFun (congrFun (t111_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) k) acc) kk qi qr fI fR fO hI

end Cert.KernelIdeal.Gather
-- ==== Proof.BodyGather.T116.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t116` (field 19, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t116_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v345 : BitVec 32) (c1_i32_212 : BitVec 32) (k0_t115 : Fin (k0_t115_loop i).trips) :
    Gen.k0_t116_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115 = fun k acc => gTrip arg31 arg30 arg33 k k0_chk1217.dec k0_chk1218.dec k0_chk1219.dec k0_chk1220.dec k0_chk1221.dec k0_chk1222.dec k0_chk1223.dec k0_chk1224.dec k0_chk1225.dec k0_chk1226.dec k0_chk1227.dec k0_chk1228.dec k0_chk1229.dec k0_chk1230.dec k0_chk1231.dec k0_chk1232.dec 0#32 := rfl

/-- The gather loop `k0_t116` ahead of a continuation: the index and row buffers read (any share), every
    index word naming a row; the output buffer left reading the gather. -/
theorem loop_t116 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v345 : BitVec 32} {c1_i32_212 : BitVec 32} {k0_t115 : Fin (k0_t115_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t116_loop Gen.k0_t116_ok 0#32 (Gen.k0_t116_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) >>= kk) Q :=
  gLoop_wp 𝒱 bd E d _ _ arg31 arg30 arg33 Gen.k0_t116_ok 0#32 _ k0_chk1217.dec k0_chk1218.dec k0_chk1219.dec k0_chk1220.dec k0_chk1221.dec k0_chk1222.dec k0_chk1223.dec k0_chk1224.dec k0_chk1225.dec k0_chk1226.dec k0_chk1227.dec k0_chk1228.dec k0_chk1229.dec k0_chk1230.dec k0_chk1231.dec k0_chk1232.dec 0#32
    (fun k acc => congrFun (congrFun (t116_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) k) acc) kk qi qr fI fR fO hI

end Cert.KernelIdeal.Gather
-- ==== Proof.BodyGather.T117.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t117` (field 19, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t117_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v345 : BitVec 32) (c1_i32_212 : BitVec 32) (k0_t115 : Fin (k0_t115_loop i).trips) :
    Gen.k0_t117_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115 = fun k acc => gTrip arg32 arg30 arg33 k k0_chk1233.dec k0_chk1234.dec k0_chk1235.dec k0_chk1236.dec k0_chk1237.dec k0_chk1238.dec k0_chk1239.dec k0_chk1240.dec k0_chk1241.dec k0_chk1242.dec k0_chk1243.dec k0_chk1244.dec k0_chk1245.dec k0_chk1246.dec k0_chk1247.dec k0_chk1248.dec 0#32 := rfl

/-- The gather loop `k0_t117` ahead of a continuation: the index and row buffers read (any share), every
    index word naming a row; the output buffer left reading the gather. -/
theorem loop_t117 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v345 : BitVec 32} {c1_i32_212 : BitVec 32} {k0_t115 : Fin (k0_t115_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t117_loop Gen.k0_t117_ok 0#32 (Gen.k0_t117_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) >>= kk) Q :=
  gLoop_wp 𝒱 bd E d _ _ arg32 arg30 arg33 Gen.k0_t117_ok 0#32 _ k0_chk1233.dec k0_chk1234.dec k0_chk1235.dec k0_chk1236.dec k0_chk1237.dec k0_chk1238.dec k0_chk1239.dec k0_chk1240.dec k0_chk1241.dec k0_chk1242.dec k0_chk1243.dec k0_chk1244.dec k0_chk1245.dec k0_chk1246.dec k0_chk1247.dec k0_chk1248.dec 0#32
    (fun k acc => congrFun (congrFun (t117_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) k) acc) kk qi qr fI fR fO hI

end Cert.KernelIdeal.Gather
-- ==== Proof.BodyGather.T122.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t122` (field 20, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t122_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v361 : BitVec 32) (c1_i32_222 : BitVec 32) (k0_t121 : Fin (k0_t121_loop i).trips) :
    Gen.k0_t122_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121 = fun k acc => gTrip arg31 arg30 arg33 k k0_chk1281.dec k0_chk1282.dec k0_chk1283.dec k0_chk1284.dec k0_chk1285.dec k0_chk1286.dec k0_chk1287.dec k0_chk1288.dec k0_chk1289.dec k0_chk1290.dec k0_chk1291.dec k0_chk1292.dec k0_chk1293.dec k0_chk1294.dec k0_chk1295.dec k0_chk1296.dec 0#32 := rfl

/-- The gather loop `k0_t122` ahead of a continuation: the index and row buffers read (any share), every
    index word naming a row; the output buffer left reading the gather. -/
theorem loop_t122 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v361 : BitVec 32} {c1_i32_222 : BitVec 32} {k0_t121 : Fin (k0_t121_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t122_loop Gen.k0_t122_ok 0#32 (Gen.k0_t122_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) >>= kk) Q :=
  gLoop_wp 𝒱 bd E d _ _ arg31 arg30 arg33 Gen.k0_t122_ok 0#32 _ k0_chk1281.dec k0_chk1282.dec k0_chk1283.dec k0_chk1284.dec k0_chk1285.dec k0_chk1286.dec k0_chk1287.dec k0_chk1288.dec k0_chk1289.dec k0_chk1290.dec k0_chk1291.dec k0_chk1292.dec k0_chk1293.dec k0_chk1294.dec k0_chk1295.dec k0_chk1296.dec 0#32
    (fun k acc => congrFun (congrFun (t122_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) k) acc) kk qi qr fI fR fO hI

end Cert.KernelIdeal.Gather
-- ==== Proof.BodyGather.T123.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t123` (field 20, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t123_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v361 : BitVec 32) (c1_i32_222 : BitVec 32) (k0_t121 : Fin (k0_t121_loop i).trips) :
    Gen.k0_t123_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121 = fun k acc => gTrip arg32 arg30 arg33 k k0_chk1297.dec k0_chk1298.dec k0_chk1299.dec k0_chk1300.dec k0_chk1301.dec k0_chk1302.dec k0_chk1303.dec k0_chk1304.dec k0_chk1305.dec k0_chk1306.dec k0_chk1307.dec k0_chk1308.dec k0_chk1309.dec k0_chk1310.dec k0_chk1311.dec k0_chk1312.dec 0#32 := rfl

/-- The gather loop `k0_t123` ahead of a continuation: the index and row buffers read (any share), every
    index word naming a row; the output buffer left reading the gather. -/
theorem loop_t123 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v361 : BitVec 32} {c1_i32_222 : BitVec 32} {k0_t121 : Fin (k0_t121_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t123_loop Gen.k0_t123_ok 0#32 (Gen.k0_t123_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) >>= kk) Q :=
  gLoop_wp 𝒱 bd E d _ _ arg32 arg30 arg33 Gen.k0_t123_ok 0#32 _ k0_chk1297.dec k0_chk1298.dec k0_chk1299.dec k0_chk1300.dec k0_chk1301.dec k0_chk1302.dec k0_chk1303.dec k0_chk1304.dec k0_chk1305.dec k0_chk1306.dec k0_chk1307.dec k0_chk1308.dec k0_chk1309.dec k0_chk1310.dec k0_chk1311.dec k0_chk1312.dec 0#32
    (fun k acc => congrFun (congrFun (t123_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) k) acc) kk qi qr fI fR fO hI

end Cert.KernelIdeal.Gather
-- ==== Proof.BodyGather.T128.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t128` (field 21, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t128_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v377 : BitVec 32) (c1_i32_232 : BitVec 32) (k0_t127 : Fin (k0_t127_loop i).trips) :
    Gen.k0_t128_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127 = fun k acc => gTrip arg31 arg30 arg33 k k0_chk1345.dec k0_chk1346.dec k0_chk1347.dec k0_chk1348.dec k0_chk1349.dec k0_chk1350.dec k0_chk1351.dec k0_chk1352.dec k0_chk1353.dec k0_chk1354.dec k0_chk1355.dec k0_chk1356.dec k0_chk1357.dec k0_chk1358.dec k0_chk1359.dec k0_chk1360.dec 0#32 := rfl

/-- The gather loop `k0_t128` ahead of a continuation: the index and row buffers read (any share), every
    index word naming a row; the output buffer left reading the gather. -/
theorem loop_t128 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v377 : BitVec 32} {c1_i32_232 : BitVec 32} {k0_t127 : Fin (k0_t127_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t128_loop Gen.k0_t128_ok 0#32 (Gen.k0_t128_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) >>= kk) Q :=
  gLoop_wp 𝒱 bd E d _ _ arg31 arg30 arg33 Gen.k0_t128_ok 0#32 _ k0_chk1345.dec k0_chk1346.dec k0_chk1347.dec k0_chk1348.dec k0_chk1349.dec k0_chk1350.dec k0_chk1351.dec k0_chk1352.dec k0_chk1353.dec k0_chk1354.dec k0_chk1355.dec k0_chk1356.dec k0_chk1357.dec k0_chk1358.dec k0_chk1359.dec k0_chk1360.dec 0#32
    (fun k acc => congrFun (congrFun (t128_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) k) acc) kk qi qr fI fR fO hI

end Cert.KernelIdeal.Gather
-- ==== Proof.BodyGather.T129.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t129` (field 21, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t129_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v377 : BitVec 32) (c1_i32_232 : BitVec 32) (k0_t127 : Fin (k0_t127_loop i).trips) :
    Gen.k0_t129_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127 = fun k acc => gTrip arg32 arg30 arg33 k k0_chk1361.dec k0_chk1362.dec k0_chk1363.dec k0_chk1364.dec k0_chk1365.dec k0_chk1366.dec k0_chk1367.dec k0_chk1368.dec k0_chk1369.dec k0_chk1370.dec k0_chk1371.dec k0_chk1372.dec k0_chk1373.dec k0_chk1374.dec k0_chk1375.dec k0_chk1376.dec 0#32 := rfl

/-- The gather loop `k0_t129` ahead of a continuation: the index and row buffers read (any share), every
    index word naming a row; the output buffer left reading the gather. -/
theorem loop_t129 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v377 : BitVec 32} {c1_i32_232 : BitVec 32} {k0_t127 : Fin (k0_t127_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t129_loop Gen.k0_t129_ok 0#32 (Gen.k0_t129_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) >>= kk) Q :=
  gLoop_wp 𝒱 bd E d _ _ arg32 arg30 arg33 Gen.k0_t129_ok 0#32 _ k0_chk1361.dec k0_chk1362.dec k0_chk1363.dec k0_chk1364.dec k0_chk1365.dec k0_chk1366.dec k0_chk1367.dec k0_chk1368.dec k0_chk1369.dec k0_chk1370.dec k0_chk1371.dec k0_chk1372.dec k0_chk1373.dec k0_chk1374.dec k0_chk1375.dec k0_chk1376.dec 0#32
    (fun k acc => congrFun (congrFun (t129_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) k) acc) kk qi qr fI fR fO hI

end Cert.KernelIdeal.Gather
-- ==== Proof.BodyGather.T134.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t134` (field 22, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t134_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v393 : BitVec 32) (c1_i32_242 : BitVec 32) (k0_t133 : Fin (k0_t133_loop i).trips) :
    Gen.k0_t134_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133 = fun k acc => gTrip arg31 arg30 arg33 k k0_chk1409.dec k0_chk1410.dec k0_chk1411.dec k0_chk1412.dec k0_chk1413.dec k0_chk1414.dec k0_chk1415.dec k0_chk1416.dec k0_chk1417.dec k0_chk1418.dec k0_chk1419.dec k0_chk1420.dec k0_chk1421.dec k0_chk1422.dec k0_chk1423.dec k0_chk1424.dec 0#32 := rfl

/-- The gather loop `k0_t134` ahead of a continuation: the index and row buffers read (any share), every
    index word naming a row; the output buffer left reading the gather. -/
theorem loop_t134 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v393 : BitVec 32} {c1_i32_242 : BitVec 32} {k0_t133 : Fin (k0_t133_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t134_loop Gen.k0_t134_ok 0#32 (Gen.k0_t134_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) >>= kk) Q :=
  gLoop_wp 𝒱 bd E d _ _ arg31 arg30 arg33 Gen.k0_t134_ok 0#32 _ k0_chk1409.dec k0_chk1410.dec k0_chk1411.dec k0_chk1412.dec k0_chk1413.dec k0_chk1414.dec k0_chk1415.dec k0_chk1416.dec k0_chk1417.dec k0_chk1418.dec k0_chk1419.dec k0_chk1420.dec k0_chk1421.dec k0_chk1422.dec k0_chk1423.dec k0_chk1424.dec 0#32
    (fun k acc => congrFun (congrFun (t134_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) k) acc) kk qi qr fI fR fO hI

end Cert.KernelIdeal.Gather
-- ==== Proof.BodyGather.T135.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t135` (field 22, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t135_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v393 : BitVec 32) (c1_i32_242 : BitVec 32) (k0_t133 : Fin (k0_t133_loop i).trips) :
    Gen.k0_t135_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133 = fun k acc => gTrip arg32 arg30 arg33 k k0_chk1425.dec k0_chk1426.dec k0_chk1427.dec k0_chk1428.dec k0_chk1429.dec k0_chk1430.dec k0_chk1431.dec k0_chk1432.dec k0_chk1433.dec k0_chk1434.dec k0_chk1435.dec k0_chk1436.dec k0_chk1437.dec k0_chk1438.dec k0_chk1439.dec k0_chk1440.dec 0#32 := rfl

/-- The gather loop `k0_t135` ahead of a continuation: the index and row buffers read (any share), every
    index word naming a row; the output buffer left reading the gather. -/
theorem loop_t135 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v393 : BitVec 32} {c1_i32_242 : BitVec 32} {k0_t133 : Fin (k0_t133_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t135_loop Gen.k0_t135_ok 0#32 (Gen.k0_t135_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) >>= kk) Q :=
  gLoop_wp 𝒱 bd E d _ _ arg32 arg30 arg33 Gen.k0_t135_ok 0#32 _ k0_chk1425.dec k0_chk1426.dec k0_chk1427.dec k0_chk1428.dec k0_chk1429.dec k0_chk1430.dec k0_chk1431.dec k0_chk1432.dec k0_chk1433.dec k0_chk1434.dec k0_chk1435.dec k0_chk1436.dec k0_chk1437.dec k0_chk1438.dec k0_chk1439.dec k0_chk1440.dec 0#32
    (fun k acc => congrFun (congrFun (t135_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) k) acc) kk qi qr fI fR fO hI

end Cert.KernelIdeal.Gather
-- ==== Proof.BodyGather.T140.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t140` (field 23, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t140_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v409 : BitVec 32) (c1_i32_252 : BitVec 32) (k0_t139 : Fin (k0_t139_loop i).trips) :
    Gen.k0_t140_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139 = fun k acc => gTrip arg31 arg30 arg33 k k0_chk1473.dec k0_chk1474.dec k0_chk1475.dec k0_chk1476.dec k0_chk1477.dec k0_chk1478.dec k0_chk1479.dec k0_chk1480.dec k0_chk1481.dec k0_chk1482.dec k0_chk1483.dec k0_chk1484.dec k0_chk1485.dec k0_chk1486.dec k0_chk1487.dec k0_chk1488.dec 0#32 := rfl

/-- The gather loop `k0_t140` ahead of a continuation: the index and row buffers read (any share), every
    index word naming a row; the output buffer left reading the gather. -/
theorem loop_t140 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v409 : BitVec 32} {c1_i32_252 : BitVec 32} {k0_t139 : Fin (k0_t139_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t140_loop Gen.k0_t140_ok 0#32 (Gen.k0_t140_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) >>= kk) Q :=
  gLoop_wp 𝒱 bd E d _ _ arg31 arg30 arg33 Gen.k0_t140_ok 0#32 _ k0_chk1473.dec k0_chk1474.dec k0_chk1475.dec k0_chk1476.dec k0_chk1477.dec k0_chk1478.dec k0_chk1479.dec k0_chk1480.dec k0_chk1481.dec k0_chk1482.dec k0_chk1483.dec k0_chk1484.dec k0_chk1485.dec k0_chk1486.dec k0_chk1487.dec k0_chk1488.dec 0#32
    (fun k acc => congrFun (congrFun (t140_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) k) acc) kk qi qr fI fR fO hI

end Cert.KernelIdeal.Gather
-- ==== Proof.BodyGather.T141.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t141` (field 23, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t141_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v409 : BitVec 32) (c1_i32_252 : BitVec 32) (k0_t139 : Fin (k0_t139_loop i).trips) :
    Gen.k0_t141_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139 = fun k acc => gTrip arg32 arg30 arg33 k k0_chk1489.dec k0_chk1490.dec k0_chk1491.dec k0_chk1492.dec k0_chk1493.dec k0_chk1494.dec k0_chk1495.dec k0_chk1496.dec k0_chk1497.dec k0_chk1498.dec k0_chk1499.dec k0_chk1500.dec k0_chk1501.dec k0_chk1502.dec k0_chk1503.dec k0_chk1504.dec 0#32 := rfl

/-- The gather loop `k0_t141` ahead of a continuation: the index and row buffers read (any share), every
    index word naming a row; the output buffer left reading the gather. -/
theorem loop_t141 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v409 : BitVec 32} {c1_i32_252 : BitVec 32} {k0_t139 : Fin (k0_t139_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t141_loop Gen.k0_t141_ok 0#32 (Gen.k0_t141_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) >>= kk) Q :=
  gLoop_wp 𝒱 bd E d _ _ arg32 arg30 arg33 Gen.k0_t141_ok 0#32 _ k0_chk1489.dec k0_chk1490.dec k0_chk1491.dec k0_chk1492.dec k0_chk1493.dec k0_chk1494.dec k0_chk1495.dec k0_chk1496.dec k0_chk1497.dec k0_chk1498.dec k0_chk1499.dec k0_chk1500.dec k0_chk1501.dec k0_chk1502.dec k0_chk1503.dec k0_chk1504.dec 0#32
    (fun k acc => congrFun (congrFun (t141_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) k) acc) kk qi qr fI fR fO hI

end Cert.KernelIdeal.Gather
-- ==== Proof.BodyGather.T146.lean ====
import proofs.«204037_g66941360275737_cont_sun_c4_657_24_alg».proof.Proof.Gen.KernelIdeal.Skeleton.P02
import proofs.«204037_g66941360275737_cont_sun_c4_657_24_alg».proof.Proof.BodyGather

/-!
# The gather loop `k0_t146` (field 24, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t146_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v425 : BitVec 32) (c1_i32_262 : BitVec 32) (k0_t145 : Fin (k0_t145_loop i).trips) :
    Gen.k0_t146_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145 = fun k acc => gTrip arg31 arg30 arg33 k k0_chk1537.dec k0_chk1538.dec k0_chk1539.dec k0_chk1540.dec k0_chk1541.dec k0_chk1542.dec k0_chk1543.dec k0_chk1544.dec k0_chk1545.dec k0_chk1546.dec k0_chk1547.dec k0_chk1548.dec k0_chk1549.dec k0_chk1550.dec k0_chk1551.dec k0_chk1552.dec 0#32 := rfl

/-- The gather loop `k0_t146` ahead of a continuation: the index and row buffers read (any share), every
    index word naming a row; the output buffer left reading the gather. -/
theorem loop_t146 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v425 : BitVec 32} {c1_i32_262 : BitVec 32} {k0_t145 : Fin (k0_t145_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t146_loop Gen.k0_t146_ok 0#32 (Gen.k0_t146_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) >>= kk) Q :=
  gLoop_wp 𝒱 bd E d _ _ arg31 arg30 arg33 Gen.k0_t146_ok 0#32 _ k0_chk1537.dec k0_chk1538.dec k0_chk1539.dec k0_chk1540.dec k0_chk1541.dec k0_chk1542.dec k0_chk1543.dec k0_chk1544.dec k0_chk1545.dec k0_chk1546.dec k0_chk1547.dec k0_chk1548.dec k0_chk1549.dec k0_chk1550.dec k0_chk1551.dec k0_chk1552.dec 0#32
    (fun k acc => congrFun (congrFun (t146_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) k) acc) kk qi qr fI fR fO hI

end Cert.KernelIdeal.Gather
-- ==== Proof.BodyGather.T147.lean ====
import proofs.«204037_g66941360275737_cont_sun_c4_657_24_alg».proof.Proof.Gen.KernelIdeal.Skeleton
import proofs.«204037_g66941360275737_cont_sun_c4_657_24_alg».proof.Proof.BodyGather

/-!
# The gather loop `k0_t147` (field 24, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t147_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v425 : BitVec 32) (c1_i32_262 : BitVec 32) (k0_t145 : Fin (k0_t145_loop i).trips) :
    Gen.k0_t147_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145 = fun k acc => gTrip arg32 arg30 arg33 k k0_chk1553.dec k0_chk1554.dec k0_chk1555.dec k0_chk1556.dec k0_chk1557.dec k0_chk1558.dec k0_chk1559.dec k0_chk1560.dec k0_chk1561.dec k0_chk1562.dec k0_chk1563.dec k0_chk1564.dec k0_chk1565.dec k0_chk1566.dec k0_chk1567.dec k0_chk1568.dec 0#32 := rfl

/-- The gather loop `k0_t147` ahead of a continuation: the index and row buffers read (any share), every
    index word naming a row; the output buffer left reading the gather. -/
theorem loop_t147 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v425 : BitVec 32} {c1_i32_262 : BitVec 32} {k0_t145 : Fin (k0_t145_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t147_loop Gen.k0_t147_ok 0#32 (Gen.k0_t147_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) >>= kk) Q :=
  gLoop_wp 𝒱 bd E d _ _ arg32 arg30 arg33 Gen.k0_t147_ok 0#32 _ k0_chk1553.dec k0_chk1554.dec k0_chk1555.dec k0_chk1556.dec k0_chk1557.dec k0_chk1558.dec k0_chk1559.dec k0_chk1560.dec k0_chk1561.dec k0_chk1562.dec k0_chk1563.dec k0_chk1564.dec k0_chk1565.dec k0_chk1566.dec k0_chk1567.dec k0_chk1568.dec 0#32
    (fun k acc => congrFun (congrFun (t147_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) k) acc) kk qi qr fI fR fO hI

end Cert.KernelIdeal.Gather
-- ==== Proof.BodyGather.T152.lean ====
import proofs.«204037_g66941360275737_cont_sun_c4_657_24_alg».proof.Proof.Gen.KernelIdeal.Skeleton
import proofs.«204037_g66941360275737_cont_sun_c4_657_24_alg».proof.Proof.BodyGather

/-!
# The gather loop `k0_t152` (field 25, first half of the batch)

Its trip region is the generic trip at the row buffer, the first index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t152_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v441 : BitVec 32) (c1_i32_272 : BitVec 32) (k0_t151 : Fin (k0_t151_loop i).trips) :
    Gen.k0_t152_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151 = fun k acc => gTrip arg31 arg30 arg33 k k0_chk1601.dec k0_chk1602.dec k0_chk1603.dec k0_chk1604.dec k0_chk1605.dec k0_chk1606.dec k0_chk1607.dec k0_chk1608.dec k0_chk1609.dec k0_chk1610.dec k0_chk1611.dec k0_chk1612.dec k0_chk1613.dec k0_chk1614.dec k0_chk1615.dec k0_chk1616.dec 0#32 := rfl

/-- The gather loop `k0_t152` ahead of a continuation: the index and row buffers read (any share), every
    index word naming a row; the output buffer left reading the gather. -/
theorem loop_t152 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v441 : BitVec 32} {c1_i32_272 : BitVec 32} {k0_t151 : Fin (k0_t151_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t152_loop Gen.k0_t152_ok 0#32 (Gen.k0_t152_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) >>= kk) Q :=
  gLoop_wp 𝒱 bd E d _ _ arg31 arg30 arg33 Gen.k0_t152_ok 0#32 _ k0_chk1601.dec k0_chk1602.dec k0_chk1603.dec k0_chk1604.dec k0_chk1605.dec k0_chk1606.dec k0_chk1607.dec k0_chk1608.dec k0_chk1609.dec k0_chk1610.dec k0_chk1611.dec k0_chk1612.dec k0_chk1613.dec k0_chk1614.dec k0_chk1615.dec k0_chk1616.dec 0#32
    (fun k acc => congrFun (congrFun (t152_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) k) acc) kk qi qr fI fR fO hI

end Cert.KernelIdeal.Gather
-- ==== Proof.BodyGather.T153.lean ====
import proofs.«204037_g66941360275737_cont_sun_c4_657_24_alg».proof.Proof.Gen.KernelIdeal.Skeleton
import proofs.«204037_g66941360275737_cont_sun_c4_657_24_alg».proof.Proof.BodyGather

/-!
# The gather loop `k0_t153` (field 25, second half of the batch)

Its trip region is the generic trip at the row buffer, the second index buffer and the output buffer; the
generic loop rule then gives: the output buffer ends reading `y ↦ row (index y)` at every `y`.
-/

noncomputable section

namespace Cert.KernelIdeal.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t153_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v441 : BitVec 32) (c1_i32_272 : BitVec 32) (k0_t151 : Fin (k0_t151_loop i).trips) :
    Gen.k0_t153_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151 = fun k acc => gTrip arg32 arg30 arg33 k k0_chk1617.dec k0_chk1618.dec k0_chk1619.dec k0_chk1620.dec k0_chk1621.dec k0_chk1622.dec k0_chk1623.dec k0_chk1624.dec k0_chk1625.dec k0_chk1626.dec k0_chk1627.dec k0_chk1628.dec k0_chk1629.dec k0_chk1630.dec k0_chk1631.dec k0_chk1632.dec 0#32 := rfl

/-- The gather loop `k0_t153` ahead of a continuation: the index and row buffers read (any share), every
    index word naming a row; the output buffer left reading the gather. -/
theorem loop_t153 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v441 : BitVec 32} {c1_i32_272 : BitVec 32} {k0_t151 : Fin (k0_t151_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t153_loop Gen.k0_t153_ok 0#32 (Gen.k0_t153_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) >>= kk) Q :=
  gLoop_wp 𝒱 bd E d _ _ arg32 arg30 arg33 Gen.k0_t153_ok 0#32 _ k0_chk1617.dec k0_chk1618.dec k0_chk1619.dec k0_chk1620.dec k0_chk1621.dec k0_chk1622.dec k0_chk1623.dec k0_chk1624.dec k0_chk1625.dec k0_chk1626.dec k0_chk1627.dec k0_chk1628.dec k0_chk1629.dec k0_chk1630.dec k0_chk1631.dec k0_chk1632.dec 0#32
    (fun k acc => congrFun (congrFun (t153_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) k) acc) kk qi qr fI fR fO hI

end Cert.KernelIdeal.Gather
-- ==== Proof.BodyRowInst.lean ====
import proofs.«204037_g66941360275737_cont_sun_c4_657_24_alg».proof.Proof.BodyRowVal
import proofs.«204037_g66941360275737_cont_sun_c4_657_24_alg».proof.Proof.Gen.KernelIdeal.Skeleton
import proofs.«204037_g66941360275737_cont_sun_c4_657_24_alg».proof.Proof.BodyGather.T2
import proofs.«204037_g66941360275737_cont_sun_c4_657_24_alg».proof.Proof.BodyGather.T3
import proofs.«204037_g66941360275737_cont_sun_c4_657_24_alg».proof.Proof.BodyGather.T8
import proofs.«204037_g66941360275737_cont_sun_c4_657_24_alg».proof.Proof.BodyGather.T9
import proofs.«204037_g66941360275737_cont_sun_c4_657_24_alg».proof.Proof.BodyGather.T14
import proofs.«204037_g66941360275737_cont_sun_c4_657_24_alg».proof.Proof.BodyGather.T15
import proofs.«204037_g66941360275737_cont_sun_c4_657_24_alg».proof.Proof.BodyGather.T20
import proofs.«204037_g66941360275737_cont_sun_c4_657_24_alg».proof.Proof.BodyGather.T21
import proofs.«204037_g66941360275737_cont_sun_c4_657_24_alg».proof.Proof.BodyGather.T26
import proofs.«204037_g66941360275737_cont_sun_c4_657_24_alg».proof.Proof.BodyGather.T27
import proofs.«204037_g66941360275737_cont_sun_c4_657_24_alg».proof.Proof.BodyGather.T32
import proofs.«204037_g66941360275737_cont_sun_c4_657_24_alg».proof.Proof.BodyGather.T33
import proofs.«204037_g66941360275737_cont_sun_c4_657_24_alg».proof.Proof.BodyGather.T38
import proofs.«204037_g66941360275737_cont_sun_c4_657_24_alg».proof.Proof.BodyGather.T39
import proofs.«204037_g66941360275737_cont_sun_c4_657_24_alg».proof.Proof.BodyGather.T44
import proofs.«204037_g66941360275737_cont_sun_c4_657_24_alg».proof.Proof.BodyGather.T45
import proofs.«204037_g66941360275737_cont_sun_c4_657_24_alg».proof.Proof.BodyGather.T50
import proofs.«204037_g66941360275737_cont_sun_c4_657_24_alg».proof.Proof.BodyGather.T51
import proofs.«204037_g66941360275737_cont_sun_c4_657_24_alg».proof.Proof.BodyGather.T56
import proofs.«204037_g66941360275737_cont_sun_c4_657_24_alg».proof.Proof.BodyGather.T57
import proofs.«204037_g66941360275737_cont_sun_c4_657_24_alg».proof.Proof.BodyGather.T62
import proofs.«204037_g66941360275737_cont_sun_c4_657_24_alg».proof.Proof.BodyGather.T63
import proofs.«204037_g66941360275737_cont_sun_c4_657_24_alg».proof.Proof.BodyGather.T68
import proofs.«204037_g66941360275737_cont_sun_c4_657_24_alg».proof.Proof.BodyGather.T69
import proofs.«204037_g66941360275737_cont_sun_c4_657_24_alg».proof.Proof.BodyGather.T74
import proofs.«204037_g66941360275737_cont_sun_c4_657_24_alg».proof.Proof.BodyGather.T75
import proofs.«204037_g66941360275737_cont_sun_c4_657_24_alg».proof.Proof.BodyGather.T80
import proofs.«204037_g66941360275737_cont_sun_c4_657_24_alg».proof.Proof.BodyGather.T81
import proofs.«204037_g66941360275737_cont_sun_c4_657_24_alg».proof.Proof.BodyGather.T86
import proofs.«204037_g66941360275737_cont_sun_c4_657_24_alg».proof.Proof.BodyGather.T87
import proofs.«204037_g66941360275737_cont_sun_c4_657_24_alg».proof.Proof.BodyGather.T92
import proofs.«204037_g66941360275737_cont_sun_c4_657_24_alg».proof.Proof.BodyGather.T93
import proofs.«204037_g66941360275737_cont_sun_c4_657_24_alg».proof.Proof.BodyGather.T98
import proofs.«204037_g66941360275737_cont_sun_c4_657_24_alg».proof.Proof.BodyGather.T99
import proofs.«204037_g66941360275737_cont_sun_c4_657_24_alg».proof.Proof.BodyGather.T104
import proofs.«204037_g66941360275737_cont_sun_c4_657_24_alg».proof.Proof.BodyGather.T105
import proofs.«204037_g66941360275737_cont_sun_c4_657_24_alg».proof.Proof.BodyGather.T110
import proofs.«204037_g66941360275737_cont_sun_c4_657_24_alg».proof.Proof.BodyGather.T111
import proofs.«204037_g66941360275737_cont_sun_c4_657_24_alg».proof.Proof.BodyGather.T116
import proofs.«204037_g66941360275737_cont_sun_c4_657_24_alg».proof.Proof.BodyGather.T117
import proofs.«204037_g66941360275737_cont_sun_c4_657_24_alg».proof.Proof.BodyGather.T122
import proofs.«204037_g66941360275737_cont_sun_c4_657_24_alg».proof.Proof.BodyGather.T123
import proofs.«204037_g66941360275737_cont_sun_c4_657_24_alg».proof.Proof.BodyGather.T128
import proofs.«204037_g66941360275737_cont_sun_c4_657_24_alg».proof.Proof.BodyGather.T129
import proofs.«204037_g66941360275737_cont_sun_c4_657_24_alg».proof.Proof.BodyGather.T134
import proofs.«204037_g66941360275737_cont_sun_c4_657_24_alg».proof.Proof.BodyGather.T135
import proofs.«204037_g66941360275737_cont_sun_c4_657_24_alg».proof.Proof.BodyGather.T140
import proofs.«204037_g66941360275737_cont_sun_c4_657_24_alg».proof.Proof.BodyGather.T141
import proofs.«204037_g66941360275737_cont_sun_c4_657_24_alg».proof.Proof.BodyGather.T146
import proofs.«204037_g66941360275737_cont_sun_c4_657_24_alg».proof.Proof.BodyGather.T147
import proofs.«204037_g66941360275737_cont_sun_c4_657_24_alg».proof.Proof.BodyGather.T152
import proofs.«204037_g66941360275737_cont_sun_c4_657_24_alg».proof.Proof.BodyGather.T153

noncomputable section

namespace Cert.Proof.BodyRow

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.UnitArith (dlo dhi dlo_le_dhi dhi_le mem_range_iff')
open Cert.KernelIdeal.UnitArithK

variable {F : FTy → Type} [FloatOps F]

local notation "𝕄" => MT nD τ sig (HIx 1) (Elt F) ℕ UU ℕ

/-- The two index scratches, as a tile addresses them. -/
abbrev sIa : Memref sig .scVector .vmem S8192 .i32 := Memref.whole cc0_scratch1
abbrev sIb : Memref sig .scVector .vmem S8192 .i32 := Memref.whole cc0_scratch2

set_option maxRecDepth 65536 in
set_option maxHeartbeats 4000000 in
/-- Field 0's loop over its rows, at the printed trip region. -/
theorem dinst_0 (L : grid0.Coords) (d : Dev nD) (defs : Defs nD τ sig (Elt F) Λ₀) (v19 : BitVec 32) (v38 : BitVec 32) (c0_i32_13 : BitVec 32) (v41 : BitVec 32)
    (O : CellTallies nD τ sig (HIx 1)) (W0 : Waits sig (HIx 1)) (q : PosShare TreeShare) (fx : S26x16384.Idx → BitVec 32)
    (ft : Buf (Elt F) ((Memref.whole main_v1_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t1_loop L).trips →
      (∀ y : S8192.Idx, sIa.view.read (Elt F) fa y = fx (ix2 ⟨0, by decide⟩ ⟨(y 0).val, Nat.lt_of_lt_of_le (y 0).isLt (by decide)⟩))
      ∧ (∀ y : S8192.Idx, sIb.view.read (Elt F) fb y = fx (ix2 ⟨0, by decide⟩ ⟨(y 0).val + 8192, Nat.add_lt_add_right (y 0).isLt 8192⟩)))
    (hG : ∀ x : S936x16384.Idx, 0 + dlo (wid L) 0 ≤ (x 0).val → (x 0).val < 0 + dlo (wid L) 0 + (k0_t1_loop L).trips →
      G x = ft (tIx (x 0).val (fx (ix2 ⟨0, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v1_scv : Memref sig .scVector .hbm S36x100000 .f32) cc0_scoped2 cc0_scoped3 cc0_scoped4 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (0 + dlo (wid L) 0) 0 0#32
        ∗ (∀ acc, rowsInv (F := F) ((L 0).castLE hcore0) ((L 1).castLE hsub0) d (Memref.whole main_v1_scv : Memref sig .scVector .hbm S36x100000 .f32) cc0_scoped2 cc0_scoped3 cc0_scoped4 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (0 + dlo (wid L) 0) (k0_t1_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t1_loop L) (k0_t1_ok L) 0#32 (k0_t1_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c0_i32_13 v41) >>= kk) Q := by
  have htr := t1_trips L
  have h1 := dlo_le_dhi (wid L) 0
  have h2 := dhi_le (wid L) 0
  refine dloop_0 (F := F) L d defs cc0_scoped2 cc0_scoped3 cc0_scoped4 (k0_t1_ok L) 0#32 _
    (k0_off1_inb L) (k0_off19_inb L) (k0_off37_inb L)
    (fun k => Scf.Loop.for k0_t2_loop k0_t2_ok 0#32 (k0_t2_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v41 1#32 k))
    (fun k => Scf.Loop.for k0_t3_loop k0_t3_ok 0#32 (k0_t3_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v41 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t1_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t2 Variants.none none Set.univ d (fun y => by rw [(hidx hpos).1 y]; exact hfx _)) kk' Q' fR fO
  · have hpos : 0 < (k0_t1_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t3 Variants.none none Set.univ d (fun y => by rw [(hidx hpos).2 y]; exact hfx _)) kk' Q' fR fO
  · have := (mem_range_iff' (wid L) 0 (dlo (wid L) 0) (by omega)).mp ⟨le_refl _, by omega⟩
    omega
  · have := (mem_range_iff' (wid L) 0 (dhi (wid L) 0 - 1) (by omega)).mp ⟨by omega, by omega⟩
    omega

set_option maxRecDepth 65536 in
set_option maxHeartbeats 4000000 in
/-- Field 1's loop over its rows, at the printed trip region. -/
theorem dinst_1 (L : grid0.Coords) (d : Dev nD) (defs : Defs nD τ sig (Elt F) Λ₀) (v19 : BitVec 32) (v38 : BitVec 32) (c0_i32_13 : BitVec 32) (v57 : BitVec 32)
    (O : CellTallies nD τ sig (HIx 1)) (W0 : Waits sig (HIx 1)) (q : PosShare TreeShare) (fx : S26x16384.Idx → BitVec 32)
    (ft : Buf (Elt F) ((Memref.whole main_v2_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t7_loop L).trips →
      (∀ y : S8192.Idx, sIa.view.read (Elt F) fa y = fx (ix2 ⟨1, by decide⟩ ⟨(y 0).val, Nat.lt_of_lt_of_le (y 0).isLt (by decide)⟩))
      ∧ (∀ y : S8192.Idx, sIb.view.read (Elt F) fb y = fx (ix2 ⟨1, by decide⟩ ⟨(y 0).val + 8192, Nat.add_lt_add_right (y 0).isLt 8192⟩)))
    (hG : ∀ x : S936x16384.Idx, 36 + dlo (wid L) 1 ≤ (x 0).val → (x 0).val < 36 + dlo (wid L) 1 + (k0_t7_loop L).trips →
      G x = ft (tIx (x 0).val (fx (ix2 ⟨1, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v2_scv : Memref sig .scVector .hbm S36x100000 .f32) cc0_scoped10 cc0_scoped11 cc0_scoped12 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (36 + dlo (wid L) 1) 0 0#32
        ∗ (∀ acc, rowsInv (F := F) ((L 0).castLE hcore0) ((L 1).castLE hsub0) d (Memref.whole main_v2_scv : Memref sig .scVector .hbm S36x100000 .f32) cc0_scoped10 cc0_scoped11 cc0_scoped12 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (36 + dlo (wid L) 1) (k0_t7_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t7_loop L) (k0_t7_ok L) 0#32 (k0_t7_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c0_i32_13 v57) >>= kk) Q := by
  have htr := t7_trips L
  have h1 := dlo_le_dhi (wid L) 1
  have h2 := dhi_le (wid L) 1
  refine dloop_1 (F := F) L d defs cc0_scoped10 cc0_scoped11 cc0_scoped12 (k0_t7_ok L) 0#32 _
    (k0_off75_inb L) (k0_off93_inb L) (k0_off111_inb L)
    (fun k => Scf.Loop.for k0_t8_loop k0_t8_ok 0#32 (k0_t8_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v57 1#32 k))
    (fun k => Scf.Loop.for k0_t9_loop k0_t9_ok 0#32 (k0_t9_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v57 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t7_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t8 Variants.none none Set.univ d (fun y => by rw [(hidx hpos).1 y]; exact hfx _)) kk' Q' fR fO
  · have hpos : 0 < (k0_t7_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t9 Variants.none none Set.univ d (fun y => by rw [(hidx hpos).2 y]; exact hfx _)) kk' Q' fR fO
  · have := (mem_range_iff' (wid L) 1 (dlo (wid L) 1) (by omega)).mp ⟨le_refl _, by omega⟩
    omega
  · have := (mem_range_iff' (wid L) 1 (dhi (wid L) 1 - 1) (by omega)).mp ⟨by omega, by omega⟩
    omega

set_option maxRecDepth 65536 in
set_option maxHeartbeats 4000000 in
/-- Field 2's loop over its rows, at the printed trip region. -/
theorem dinst_2 (L : grid0.Coords) (d : Dev nD) (defs : Defs nD τ sig (Elt F) Λ₀) (v19 : BitVec 32) (v38 : BitVec 32) (c36_i32_35 : BitVec 32) (v72 : BitVec 32) (v73 : BitVec 32)
    (O : CellTallies nD τ sig (HIx 1)) (W0 : Waits sig (HIx 1)) (q : PosShare TreeShare) (fx : S26x16384.Idx → BitVec 32)
    (ft : Buf (Elt F) ((Memref.whole main_v3_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t13_loop L).trips →
      (∀ y : S8192.Idx, sIa.view.read (Elt F) fa y = fx (ix2 ⟨2, by decide⟩ ⟨(y 0).val, Nat.lt_of_lt_of_le (y 0).isLt (by decide)⟩))
      ∧ (∀ y : S8192.Idx, sIb.view.read (Elt F) fb y = fx (ix2 ⟨2, by decide⟩ ⟨(y 0).val + 8192, Nat.add_lt_add_right (y 0).isLt 8192⟩)))
    (hG : ∀ x : S936x16384.Idx, 72 + dlo (wid L) 2 ≤ (x 0).val → (x 0).val < 72 + dlo (wid L) 2 + (k0_t13_loop L).trips →
      G x = ft (tIx (x 0).val (fx (ix2 ⟨2, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v3_scv : Memref sig .scVector .hbm S36x100000 .f32) cc0_scoped18 cc0_scoped19 cc0_scoped20 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (72 + dlo (wid L) 2) 0 0#32
        ∗ (∀ acc, rowsInv (F := F) ((L 0).castLE hcore0) ((L 1).castLE hsub0) d (Memref.whole main_v3_scv : Memref sig .scVector .hbm S36x100000 .f32) cc0_scoped18 cc0_scoped19 cc0_scoped20 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (72 + dlo (wid L) 2) (k0_t13_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t13_loop L) (k0_t13_ok L) 0#32 (k0_t13_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_35 v72 v73) >>= kk) Q := by
  have htr := t13_trips L
  have h1 := dlo_le_dhi (wid L) 2
  have h2 := dhi_le (wid L) 2
  refine dloop_2 (F := F) L d defs cc0_scoped18 cc0_scoped19 cc0_scoped20 (k0_t13_ok L) 0#32 _
    (k0_off149_inb L) (k0_off167_inb L) (k0_off185_inb L)
    (fun k => Scf.Loop.for k0_t14_loop k0_t14_ok 0#32 (k0_t14_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v73 1#32 k))
    (fun k => Scf.Loop.for k0_t15_loop k0_t15_ok 0#32 (k0_t15_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v73 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t13_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t14 Variants.none none Set.univ d (fun y => by rw [(hidx hpos).1 y]; exact hfx _)) kk' Q' fR fO
  · have hpos : 0 < (k0_t13_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t15 Variants.none none Set.univ d (fun y => by rw [(hidx hpos).2 y]; exact hfx _)) kk' Q' fR fO
  · have := (mem_range_iff' (wid L) 2 (dlo (wid L) 2) (by omega)).mp ⟨le_refl _, by omega⟩
    omega
  · have := (mem_range_iff' (wid L) 2 (dhi (wid L) 2 - 1) (by omega)).mp ⟨by omega, by omega⟩
    omega

set_option maxRecDepth 65536 in
set_option maxHeartbeats 4000000 in
/-- Field 3's loop over its rows, at the printed trip region. -/
theorem dinst_3 (L : grid0.Coords) (d : Dev nD) (defs : Defs nD τ sig (Elt F) Λ₀) (v19 : BitVec 32) (v38 : BitVec 32) (c36_i32_35 : BitVec 32) (v72 : BitVec 32) (v89 : BitVec 32)
    (O : CellTallies nD τ sig (HIx 1)) (W0 : Waits sig (HIx 1)) (q : PosShare TreeShare) (fx : S26x16384.Idx → BitVec 32)
    (ft : Buf (Elt F) ((Memref.whole main_v4_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t19_loop L).trips →
      (∀ y : S8192.Idx, sIa.view.read (Elt F) fa y = fx (ix2 ⟨3, by decide⟩ ⟨(y 0).val, Nat.lt_of_lt_of_le (y 0).isLt (by decide)⟩))
      ∧ (∀ y : S8192.Idx, sIb.view.read (Elt F) fb y = fx (ix2 ⟨3, by decide⟩ ⟨(y 0).val + 8192, Nat.add_lt_add_right (y 0).isLt 8192⟩)))
    (hG : ∀ x : S936x16384.Idx, 108 + dlo (wid L) 3 ≤ (x 0).val → (x 0).val < 108 + dlo (wid L) 3 + (k0_t19_loop L).trips →
      G x = ft (tIx (x 0).val (fx (ix2 ⟨3, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v4_scv : Memref sig .scVector .hbm S36x100000 .f32) cc0_scoped26 cc0_scoped27 cc0_scoped28 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (108 + dlo (wid L) 3) 0 0#32
        ∗ (∀ acc, rowsInv (F := F) ((L 0).castLE hcore0) ((L 1).castLE hsub0) d (Memref.whole main_v4_scv : Memref sig .scVector .hbm S36x100000 .f32) cc0_scoped26 cc0_scoped27 cc0_scoped28 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (108 + dlo (wid L) 3) (k0_t19_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t19_loop L) (k0_t19_ok L) 0#32 (k0_t19_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_35 v72 v89) >>= kk) Q := by
  have htr := t19_trips L
  have h1 := dlo_le_dhi (wid L) 3
  have h2 := dhi_le (wid L) 3
  refine dloop_3 (F := F) L d defs cc0_scoped26 cc0_scoped27 cc0_scoped28 (k0_t19_ok L) 0#32 _
    (k0_off223_inb L) (k0_off241_inb L) (k0_off259_inb L)
    (fun k => Scf.Loop.for k0_t20_loop k0_t20_ok 0#32 (k0_t20_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v89 1#32 k))
    (fun k => Scf.Loop.for k0_t21_loop k0_t21_ok 0#32 (k0_t21_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v89 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t19_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t20 Variants.none none Set.univ d (fun y => by rw [(hidx hpos).1 y]; exact hfx _)) kk' Q' fR fO
  · have hpos : 0 < (k0_t19_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t21 Variants.none none Set.univ d (fun y => by rw [(hidx hpos).2 y]; exact hfx _)) kk' Q' fR fO
  · have := (mem_range_iff' (wid L) 3 (dlo (wid L) 3) (by omega)).mp ⟨le_refl _, by omega⟩
    omega
  · have := (mem_range_iff' (wid L) 3 (dhi (wid L) 3 - 1) (by omega)).mp ⟨by omega, by omega⟩
    omega

set_option maxRecDepth 65536 in
set_option maxHeartbeats 4000000 in
/-- Field 4's loop over its rows, at the printed trip region. -/
theorem dinst_4 (L : grid0.Coords) (d : Dev nD) (defs : Defs nD τ sig (Elt F) Λ₀) (v19 : BitVec 32) (v38 : BitVec 32) (v105 : BitVec 32) (v106 : BitVec 32) (c0_i32_57 : BitVec 32)
    (O : CellTallies nD τ sig (HIx 1)) (W0 : Waits sig (HIx 1)) (q : PosShare TreeShare) (fx : S26x16384.Idx → BitVec 32)
    (ft : Buf (Elt F) ((Memref.whole main_v5_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t25_loop L).trips →
      (∀ y : S8192.Idx, sIa.view.read (Elt F) fa y = fx (ix2 ⟨4, by decide⟩ ⟨(y 0).val, Nat.lt_of_lt_of_le (y 0).isLt (by decide)⟩))
      ∧ (∀ y : S8192.Idx, sIb.view.read (Elt F) fb y = fx (ix2 ⟨4, by decide⟩ ⟨(y 0).val + 8192, Nat.add_lt_add_right (y 0).isLt 8192⟩)))
    (hG : ∀ x : S936x16384.Idx, 144 + dlo (wid L) 4 ≤ (x 0).val → (x 0).val < 144 + dlo (wid L) 4 + (k0_t25_loop L).trips →
      G x = ft (tIx (x 0).val (fx (ix2 ⟨4, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v5_scv : Memref sig .scVector .hbm S36x100000 .f32) cc0_scoped34 cc0_scoped35 cc0_scoped36 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (144 + dlo (wid L) 4) 0 0#32
        ∗ (∀ acc, rowsInv (F := F) ((L 0).castLE hcore0) ((L 1).castLE hsub0) d (Memref.whole main_v5_scv : Memref sig .scVector .hbm S36x100000 .f32) cc0_scoped34 cc0_scoped35 cc0_scoped36 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (144 + dlo (wid L) 4) (k0_t25_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t25_loop L) (k0_t25_ok L) 0#32 (k0_t25_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v105 v106 c0_i32_57) >>= kk) Q := by
  have htr := t25_trips L
  have h1 := dlo_le_dhi (wid L) 4
  have h2 := dhi_le (wid L) 4
  refine dloop_4 (F := F) L d defs cc0_scoped34 cc0_scoped35 cc0_scoped36 (k0_t25_ok L) 0#32 _
    (k0_off297_inb L) (k0_off315_inb L) (k0_off333_inb L)
    (fun k => Scf.Loop.for k0_t26_loop k0_t26_ok 0#32 (k0_t26_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v105 1#32 k))
    (fun k => Scf.Loop.for k0_t27_loop k0_t27_ok 0#32 (k0_t27_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v105 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t25_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t26 Variants.none none Set.univ d (fun y => by rw [(hidx hpos).1 y]; exact hfx _)) kk' Q' fR fO
  · have hpos : 0 < (k0_t25_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t27 Variants.none none Set.univ d (fun y => by rw [(hidx hpos).2 y]; exact hfx _)) kk' Q' fR fO
  · have := (mem_range_iff' (wid L) 4 (dlo (wid L) 4) (by omega)).mp ⟨le_refl _, by omega⟩
    omega
  · have := (mem_range_iff' (wid L) 4 (dhi (wid L) 4 - 1) (by omega)).mp ⟨by omega, by omega⟩
    omega

set_option maxRecDepth 65536 in
set_option maxHeartbeats 4000000 in
/-- Field 5's loop over its rows, at the printed trip region. -/
theorem dinst_5 (L : grid0.Coords) (d : Dev nD) (defs : Defs nD τ sig (Elt F) Λ₀) (v19 : BitVec 32) (v38 : BitVec 32) (v105 : BitVec 32) (v106 : BitVec 32) (c0_i32_57 : BitVec 32) (v121 : BitVec 32)
    (O : CellTallies nD τ sig (HIx 1)) (W0 : Waits sig (HIx 1)) (q : PosShare TreeShare) (fx : S26x16384.Idx → BitVec 32)
    (ft : Buf (Elt F) ((Memref.whole main_v6_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t31_loop L).trips →
      (∀ y : S8192.Idx, sIa.view.read (Elt F) fa y = fx (ix2 ⟨5, by decide⟩ ⟨(y 0).val, Nat.lt_of_lt_of_le (y 0).isLt (by decide)⟩))
      ∧ (∀ y : S8192.Idx, sIb.view.read (Elt F) fb y = fx (ix2 ⟨5, by decide⟩ ⟨(y 0).val + 8192, Nat.add_lt_add_right (y 0).isLt 8192⟩)))
    (hG : ∀ x : S936x16384.Idx, 180 + dlo (wid L) 5 ≤ (x 0).val → (x 0).val < 180 + dlo (wid L) 5 + (k0_t31_loop L).trips →
      G x = ft (tIx (x 0).val (fx (ix2 ⟨5, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v6_scv : Memref sig .scVector .hbm S36x100000 .f32) cc0_scoped42 cc0_scoped43 cc0_scoped44 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (180 + dlo (wid L) 5) 0 0#32
        ∗ (∀ acc, rowsInv (F := F) ((L 0).castLE hcore0) ((L 1).castLE hsub0) d (Memref.whole main_v6_scv : Memref sig .scVector .hbm S36x100000 .f32) cc0_scoped42 cc0_scoped43 cc0_scoped44 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (180 + dlo (wid L) 5) (k0_t31_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t31_loop L) (k0_t31_ok L) 0#32 (k0_t31_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v105 v106 c0_i32_57 v121) >>= kk) Q := by
  have htr := t31_trips L
  have h1 := dlo_le_dhi (wid L) 5
  have h2 := dhi_le (wid L) 5
  refine dloop_5 (F := F) L d defs cc0_scoped42 cc0_scoped43 cc0_scoped44 (k0_t31_ok L) 0#32 _
    (k0_off371_inb L) (k0_off389_inb L) (k0_off407_inb L)
    (fun k => Scf.Loop.for k0_t32_loop k0_t32_ok 0#32 (k0_t32_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v121 1#32 k))
    (fun k => Scf.Loop.for k0_t33_loop k0_t33_ok 0#32 (k0_t33_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v121 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t31_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t32 Variants.none none Set.univ d (fun y => by rw [(hidx hpos).1 y]; exact hfx _)) kk' Q' fR fO
  · have hpos : 0 < (k0_t31_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t33 Variants.none none Set.univ d (fun y => by rw [(hidx hpos).2 y]; exact hfx _)) kk' Q' fR fO
  · have := (mem_range_iff' (wid L) 5 (dlo (wid L) 5) (by omega)).mp ⟨le_refl _, by omega⟩
    omega
  · have := (mem_range_iff' (wid L) 5 (dhi (wid L) 5 - 1) (by omega)).mp ⟨by omega, by omega⟩
    omega

set_option maxRecDepth 65536 in
set_option maxHeartbeats 4000000 in
/-- Field 6's loop over its rows, at the printed trip region. -/
theorem dinst_6 (L : grid0.Coords) (d : Dev nD) (defs : Defs nD τ sig (Elt F) Λ₀) (v19 : BitVec 32) (v38 : BitVec 32) (v137 : BitVec 32) (v140 : BitVec 32) (v141 : BitVec 1)
    (O : CellTallies nD τ sig (HIx 1)) (W0 : Waits sig (HIx 1)) (q : PosShare TreeShare) (fx : S26x16384.Idx → BitVec 32)
    (ft : Buf (Elt F) ((Memref.whole main_v7_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t37_loop L).trips →
      (∀ y : S8192.Idx, sIa.view.read (Elt F) fa y = fx (ix2 ⟨6, by decide⟩ ⟨(y 0).val, Nat.lt_of_lt_of_le (y 0).isLt (by decide)⟩))
      ∧ (∀ y : S8192.Idx, sIb.view.read (Elt F) fb y = fx (ix2 ⟨6, by decide⟩ ⟨(y 0).val + 8192, Nat.add_lt_add_right (y 0).isLt 8192⟩)))
    (hG : ∀ x : S936x16384.Idx, 216 + dlo (wid L) 6 ≤ (x 0).val → (x 0).val < 216 + dlo (wid L) 6 + (k0_t37_loop L).trips →
      G x = ft (tIx (x 0).val (fx (ix2 ⟨6, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v7_scv : Memref sig .scVector .hbm S36x100000 .f32) cc0_scoped50 cc0_scoped51 cc0_scoped52 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (216 + dlo (wid L) 6) 0 0#32
        ∗ (∀ acc, rowsInv (F := F) ((L 0).castLE hcore0) ((L 1).castLE hsub0) d (Memref.whole main_v7_scv : Memref sig .scVector .hbm S36x100000 .f32) cc0_scoped50 cc0_scoped51 cc0_scoped52 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (216 + dlo (wid L) 6) (k0_t37_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t37_loop L) (k0_t37_ok L) 0#32 (k0_t37_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v137 v140 v141) >>= kk) Q := by
  have htr := t37_trips L
  have h1 := dlo_le_dhi (wid L) 6
  have h2 := dhi_le (wid L) 6
  refine dloop_6 (F := F) L d defs cc0_scoped50 cc0_scoped51 cc0_scoped52 (k0_t37_ok L) 0#32 _
    (k0_off445_inb L) (k0_off463_inb L) (k0_off481_inb L)
    (fun k => Scf.Loop.for k0_t38_loop k0_t38_ok 0#32 (k0_t38_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v137 1#32 k))
    (fun k => Scf.Loop.for k0_t39_loop k0_t39_ok 0#32 (k0_t39_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v137 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t37_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t38 Variants.none none Set.univ d (fun y => by rw [(hidx hpos).1 y]; exact hfx _)) kk' Q' fR fO
  · have hpos : 0 < (k0_t37_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t39 Variants.none none Set.univ d (fun y => by rw [(hidx hpos).2 y]; exact hfx _)) kk' Q' fR fO
  · have := (mem_range_iff' (wid L) 6 (dlo (wid L) 6) (by omega)).mp ⟨le_refl _, by omega⟩
    omega
  · have := (mem_range_iff' (wid L) 6 (dhi (wid L) 6 - 1) (by omega)).mp ⟨by omega, by omega⟩
    omega

set_option maxRecDepth 65536 in
set_option maxHeartbeats 4000000 in
/-- Field 7's loop over its rows, at the printed trip region. -/
theorem dinst_7 (L : grid0.Coords) (d : Dev nD) (defs : Defs nD τ sig (Elt F) Λ₀) (v19 : BitVec 32) (v38 : BitVec 32) (v137 : BitVec 32) (v140 : BitVec 32) (v141 : BitVec 1) (v153 : BitVec 32)
    (O : CellTallies nD τ sig (HIx 1)) (W0 : Waits sig (HIx 1)) (q : PosShare TreeShare) (fx : S26x16384.Idx → BitVec 32)
    (ft : Buf (Elt F) ((Memref.whole main_v8_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t43_loop L).trips →
      (∀ y : S8192.Idx, sIa.view.read (Elt F) fa y = fx (ix2 ⟨7, by decide⟩ ⟨(y 0).val, Nat.lt_of_lt_of_le (y 0).isLt (by decide)⟩))
      ∧ (∀ y : S8192.Idx, sIb.view.read (Elt F) fb y = fx (ix2 ⟨7, by decide⟩ ⟨(y 0).val + 8192, Nat.add_lt_add_right (y 0).isLt 8192⟩)))
    (hG : ∀ x : S936x16384.Idx, 252 + dlo (wid L) 7 ≤ (x 0).val → (x 0).val < 252 + dlo (wid L) 7 + (k0_t43_loop L).trips →
      G x = ft (tIx (x 0).val (fx (ix2 ⟨7, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v8_scv : Memref sig .scVector .hbm S36x100000 .f32) cc0_scoped58 cc0_scoped59 cc0_scoped60 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (252 + dlo (wid L) 7) 0 0#32
        ∗ (∀ acc, rowsInv (F := F) ((L 0).castLE hcore0) ((L 1).castLE hsub0) d (Memref.whole main_v8_scv : Memref sig .scVector .hbm S36x100000 .f32) cc0_scoped58 cc0_scoped59 cc0_scoped60 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (252 + dlo (wid L) 7) (k0_t43_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t43_loop L) (k0_t43_ok L) 0#32 (k0_t43_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v137 v140 v141 v153) >>= kk) Q := by
  have htr := t43_trips L
  have h1 := dlo_le_dhi (wid L) 7
  have h2 := dhi_le (wid L) 7
  refine dloop_7 (F := F) L d defs cc0_scoped58 cc0_scoped59 cc0_scoped60 (k0_t43_ok L) 0#32 _
    (k0_off519_inb L) (k0_off537_inb L) (k0_off555_inb L)
    (fun k => Scf.Loop.for k0_t44_loop k0_t44_ok 0#32 (k0_t44_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v153 1#32 k))
    (fun k => Scf.Loop.for k0_t45_loop k0_t45_ok 0#32 (k0_t45_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v153 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t43_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t44 Variants.none none Set.univ d (fun y => by rw [(hidx hpos).1 y]; exact hfx _)) kk' Q' fR fO
  · have hpos : 0 < (k0_t43_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t45 Variants.none none Set.univ d (fun y => by rw [(hidx hpos).2 y]; exact hfx _)) kk' Q' fR fO
  · have := (mem_range_iff' (wid L) 7 (dlo (wid L) 7) (by omega)).mp ⟨le_refl _, by omega⟩
    omega
  · have := (mem_range_iff' (wid L) 7 (dhi (wid L) 7 - 1) (by omega)).mp ⟨by omega, by omega⟩
    omega

set_option maxRecDepth 65536 in
set_option maxHeartbeats 4000000 in
/-- Field 8's loop over its rows, at the printed trip region. -/
theorem dinst_8 (L : grid0.Coords) (d : Dev nD) (defs : Defs nD τ sig (Elt F) Λ₀) (v19 : BitVec 32) (v38 : BitVec 32) (v169 : BitVec 32) (v172 : BitVec 32)
    (O : CellTallies nD τ sig (HIx 1)) (W0 : Waits sig (HIx 1)) (q : PosShare TreeShare) (fx : S26x16384.Idx → BitVec 32)
    (ft : Buf (Elt F) ((Memref.whole main_v9_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t49_loop L).trips →
      (∀ y : S8192.Idx, sIa.view.read (Elt F) fa y = fx (ix2 ⟨8, by decide⟩ ⟨(y 0).val, Nat.lt_of_lt_of_le (y 0).isLt (by decide)⟩))
      ∧ (∀ y : S8192.Idx, sIb.view.read (Elt F) fb y = fx (ix2 ⟨8, by decide⟩ ⟨(y 0).val + 8192, Nat.add_lt_add_right (y 0).isLt 8192⟩)))
    (hG : ∀ x : S936x16384.Idx, 288 + dlo (wid L) 8 ≤ (x 0).val → (x 0).val < 288 + dlo (wid L) 8 + (k0_t49_loop L).trips →
      G x = ft (tIx (x 0).val (fx (ix2 ⟨8, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v9_scv : Memref sig .scVector .hbm S36x100000 .f32) cc0_scoped66 cc0_scoped67 cc0_scoped68 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (288 + dlo (wid L) 8) 0 0#32
        ∗ (∀ acc, rowsInv (F := F) ((L 0).castLE hcore0) ((L 1).castLE hsub0) d (Memref.whole main_v9_scv : Memref sig .scVector .hbm S36x100000 .f32) cc0_scoped66 cc0_scoped67 cc0_scoped68 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (288 + dlo (wid L) 8) (k0_t49_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t49_loop L) (k0_t49_ok L) 0#32 (k0_t49_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v169 v172) >>= kk) Q := by
  have htr := t49_trips L
  have h1 := dlo_le_dhi (wid L) 8
  have h2 := dhi_le (wid L) 8
  refine dloop_8 (F := F) L d defs cc0_scoped66 cc0_scoped67 cc0_scoped68 (k0_t49_ok L) 0#32 _
    (k0_off593_inb L) (k0_off611_inb L) (k0_off629_inb L)
    (fun k => Scf.Loop.for k0_t50_loop k0_t50_ok 0#32 (k0_t50_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v169 1#32 k))
    (fun k => Scf.Loop.for k0_t51_loop k0_t51_ok 0#32 (k0_t51_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v169 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t49_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t50 Variants.none none Set.univ d (fun y => by rw [(hidx hpos).1 y]; exact hfx _)) kk' Q' fR fO
  · have hpos : 0 < (k0_t49_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t51 Variants.none none Set.univ d (fun y => by rw [(hidx hpos).2 y]; exact hfx _)) kk' Q' fR fO
  · have := (mem_range_iff' (wid L) 8 (dlo (wid L) 8) (by omega)).mp ⟨le_refl _, by omega⟩
    omega
  · have := (mem_range_iff' (wid L) 8 (dhi (wid L) 8 - 1) (by omega)).mp ⟨by omega, by omega⟩
    omega

set_option maxRecDepth 65536 in
set_option maxHeartbeats 4000000 in
/-- Field 9's loop over its rows, at the printed trip region. -/
theorem dinst_9 (L : grid0.Coords) (d : Dev nD) (defs : Defs nD τ sig (Elt F) Λ₀) (v19 : BitVec 32) (v38 : BitVec 32) (v169 : BitVec 32) (v172 : BitVec 32) (v185 : BitVec 32)
    (O : CellTallies nD τ sig (HIx 1)) (W0 : Waits sig (HIx 1)) (q : PosShare TreeShare) (fx : S26x16384.Idx → BitVec 32)
    (ft : Buf (Elt F) ((Memref.whole main_v10_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t55_loop L).trips →
      (∀ y : S8192.Idx, sIa.view.read (Elt F) fa y = fx (ix2 ⟨9, by decide⟩ ⟨(y 0).val, Nat.lt_of_lt_of_le (y 0).isLt (by decide)⟩))
      ∧ (∀ y : S8192.Idx, sIb.view.read (Elt F) fb y = fx (ix2 ⟨9, by decide⟩ ⟨(y 0).val + 8192, Nat.add_lt_add_right (y 0).isLt 8192⟩)))
    (hG : ∀ x : S936x16384.Idx, 324 + dlo (wid L) 9 ≤ (x 0).val → (x 0).val < 324 + dlo (wid L) 9 + (k0_t55_loop L).trips →
      G x = ft (tIx (x 0).val (fx (ix2 ⟨9, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v10_scv : Memref sig .scVector .hbm S36x100000 .f32) cc0_scoped74 cc0_scoped75 cc0_scoped76 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (324 + dlo (wid L) 9) 0 0#32
        ∗ (∀ acc, rowsInv (F := F) ((L 0).castLE hcore0) ((L 1).castLE hsub0) d (Memref.whole main_v10_scv : Memref sig .scVector .hbm S36x100000 .f32) cc0_scoped74 cc0_scoped75 cc0_scoped76 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (324 + dlo (wid L) 9) (k0_t55_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t55_loop L) (k0_t55_ok L) 0#32 (k0_t55_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v169 v172 v185) >>= kk) Q := by
  have htr := t55_trips L
  have h1 := dlo_le_dhi (wid L) 9
  have h2 := dhi_le (wid L) 9
  refine dloop_9 (F := F) L d defs cc0_scoped74 cc0_scoped75 cc0_scoped76 (k0_t55_ok L) 0#32 _
    (k0_off667_inb L) (k0_off685_inb L) (k0_off703_inb L)
    (fun k => Scf.Loop.for k0_t56_loop k0_t56_ok 0#32 (k0_t56_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v185 1#32 k))
    (fun k => Scf.Loop.for k0_t57_loop k0_t57_ok 0#32 (k0_t57_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v185 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t55_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t56 Variants.none none Set.univ d (fun y => by rw [(hidx hpos).1 y]; exact hfx _)) kk' Q' fR fO
  · have hpos : 0 < (k0_t55_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t57 Variants.none none Set.univ d (fun y => by rw [(hidx hpos).2 y]; exact hfx _)) kk' Q' fR fO
  · have := (mem_range_iff' (wid L) 9 (dlo (wid L) 9) (by omega)).mp ⟨le_refl _, by omega⟩
    omega
  · have := (mem_range_iff' (wid L) 9 (dhi (wid L) 9 - 1) (by omega)).mp ⟨by omega, by omega⟩
    omega

set_option maxRecDepth 65536 in
set_option maxHeartbeats 4000000 in
/-- Field 10's loop over its rows, at the printed trip region. -/
theorem dinst_10 (L : grid0.Coords) (d : Dev nD) (defs : Defs nD τ sig (Elt F) Λ₀) (v19 : BitVec 32) (v38 : BitVec 32) (v201 : BitVec 32) (c0_i32_120 : BitVec 32) (v208 : BitVec 32) (c1_i32_121 : BitVec 32)
    (O : CellTallies nD τ sig (HIx 1)) (W0 : Waits sig (HIx 1)) (q : PosShare TreeShare) (fx : S26x16384.Idx → BitVec 32)
    (ft : Buf (Elt F) ((Memref.whole main_v11_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t61_loop L).trips →
      (∀ y : S8192.Idx, sIa.view.read (Elt F) fa y = fx (ix2 ⟨10, by decide⟩ ⟨(y 0).val, Nat.lt_of_lt_of_le (y 0).isLt (by decide)⟩))
      ∧ (∀ y : S8192.Idx, sIb.view.read (Elt F) fb y = fx (ix2 ⟨10, by decide⟩ ⟨(y 0).val + 8192, Nat.add_lt_add_right (y 0).isLt 8192⟩)))
    (hG : ∀ x : S936x16384.Idx, 360 + dlo (wid L) 10 ≤ (x 0).val → (x 0).val < 360 + dlo (wid L) 10 + (k0_t61_loop L).trips →
      G x = ft (tIx (x 0).val (fx (ix2 ⟨10, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v11_scv : Memref sig .scVector .hbm S36x100000 .f32) cc0_scoped82 cc0_scoped83 cc0_scoped84 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (360 + dlo (wid L) 10) 0 0#32
        ∗ (∀ acc, rowsInv (F := F) ((L 0).castLE hcore0) ((L 1).castLE hsub0) d (Memref.whole main_v11_scv : Memref sig .scVector .hbm S36x100000 .f32) cc0_scoped82 cc0_scoped83 cc0_scoped84 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (360 + dlo (wid L) 10) (k0_t61_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t61_loop L) (k0_t61_ok L) 0#32 (k0_t61_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v201 c0_i32_120 v208 c1_i32_121) >>= kk) Q := by
  have htr := t61_trips L
  have h1 := dlo_le_dhi (wid L) 10
  have h2 := dhi_le (wid L) 10
  refine dloop_10 (F := F) L d defs cc0_scoped82 cc0_scoped83 cc0_scoped84 (k0_t61_ok L) 0#32 _
    (k0_off741_inb L) (k0_off759_inb L) (k0_off777_inb L)
    (fun k => Scf.Loop.for k0_t62_loop k0_t62_ok 0#32 (k0_t62_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v201 1#32 k))
    (fun k => Scf.Loop.for k0_t63_loop k0_t63_ok 0#32 (k0_t63_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v201 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t61_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t62 Variants.none none Set.univ d (fun y => by rw [(hidx hpos).1 y]; exact hfx _)) kk' Q' fR fO
  · have hpos : 0 < (k0_t61_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t63 Variants.none none Set.univ d (fun y => by rw [(hidx hpos).2 y]; exact hfx _)) kk' Q' fR fO
  · have := (mem_range_iff' (wid L) 10 (dlo (wid L) 10) (by omega)).mp ⟨le_refl _, by omega⟩
    omega
  · have := (mem_range_iff' (wid L) 10 (dhi (wid L) 10 - 1) (by omega)).mp ⟨by omega, by omega⟩
    omega

set_option maxRecDepth 65536 in
set_option maxHeartbeats 4000000 in
/-- Field 11's loop over its rows, at the printed trip region. -/
theorem dinst_11 (L : grid0.Coords) (d : Dev nD) (defs : Defs nD τ sig (Elt F) Λ₀) (v19 : BitVec 32) (v38 : BitVec 32) (v201 : BitVec 32) (c0_i32_120 : BitVec 32) (v208 : BitVec 32) (c1_i32_121 : BitVec 32) (v217 : BitVec 32)
    (O : CellTallies nD τ sig (HIx 1)) (W0 : Waits sig (HIx 1)) (q : PosShare TreeShare) (fx : S26x16384.Idx → BitVec 32)
    (ft : Buf (Elt F) ((Memref.whole main_v12_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t67_loop L).trips →
      (∀ y : S8192.Idx, sIa.view.read (Elt F) fa y = fx (ix2 ⟨11, by decide⟩ ⟨(y 0).val, Nat.lt_of_lt_of_le (y 0).isLt (by decide)⟩))
      ∧ (∀ y : S8192.Idx, sIb.view.read (Elt F) fb y = fx (ix2 ⟨11, by decide⟩ ⟨(y 0).val + 8192, Nat.add_lt_add_right (y 0).isLt 8192⟩)))
    (hG : ∀ x : S936x16384.Idx, 396 + dlo (wid L) 11 ≤ (x 0).val → (x 0).val < 396 + dlo (wid L) 11 + (k0_t67_loop L).trips →
      G x = ft (tIx (x 0).val (fx (ix2 ⟨11, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v12_scv : Memref sig .scVector .hbm S36x100000 .f32) cc0_scoped90 cc0_scoped91 cc0_scoped92 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (396 + dlo (wid L) 11) 0 0#32
        ∗ (∀ acc, rowsInv (F := F) ((L 0).castLE hcore0) ((L 1).castLE hsub0) d (Memref.whole main_v12_scv : Memref sig .scVector .hbm S36x100000 .f32) cc0_scoped90 cc0_scoped91 cc0_scoped92 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (396 + dlo (wid L) 11) (k0_t67_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t67_loop L) (k0_t67_ok L) 0#32 (k0_t67_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v201 c0_i32_120 v208 c1_i32_121 v217) >>= kk) Q := by
  have htr := t67_trips L
  have h1 := dlo_le_dhi (wid L) 11
  have h2 := dhi_le (wid L) 11
  refine dloop_11 (F := F) L d defs cc0_scoped90 cc0_scoped91 cc0_scoped92 (k0_t67_ok L) 0#32 _
    (k0_off815_inb L) (k0_off833_inb L) (k0_off851_inb L)
    (fun k => Scf.Loop.for k0_t68_loop k0_t68_ok 0#32 (k0_t68_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v217 1#32 k))
    (fun k => Scf.Loop.for k0_t69_loop k0_t69_ok 0#32 (k0_t69_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v217 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t67_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t68 Variants.none none Set.univ d (fun y => by rw [(hidx hpos).1 y]; exact hfx _)) kk' Q' fR fO
  · have hpos : 0 < (k0_t67_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t69 Variants.none none Set.univ d (fun y => by rw [(hidx hpos).2 y]; exact hfx _)) kk' Q' fR fO
  · have := (mem_range_iff' (wid L) 11 (dlo (wid L) 11) (by omega)).mp ⟨le_refl _, by omega⟩
    omega
  · have := (mem_range_iff' (wid L) 11 (dhi (wid L) 11 - 1) (by omega)).mp ⟨by omega, by omega⟩
    omega

set_option maxRecDepth 65536 in
set_option maxHeartbeats 4000000 in
/-- Field 12's loop over its rows, at the printed trip region. -/
theorem dinst_12 (L : grid0.Coords) (d : Dev nD) (defs : Defs nD τ sig (Elt F) Λ₀) (v19 : BitVec 32) (v38 : BitVec 32) (v233 : BitVec 32) (c0_i32_140 : BitVec 32) (v244 : BitVec 32) (c1_i32_142 : BitVec 32)
    (O : CellTallies nD τ sig (HIx 1)) (W0 : Waits sig (HIx 1)) (q : PosShare TreeShare) (fx : S26x16384.Idx → BitVec 32)
    (ft : Buf (Elt F) ((Memref.whole main_v13_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t73_loop L).trips →
      (∀ y : S8192.Idx, sIa.view.read (Elt F) fa y = fx (ix2 ⟨12, by decide⟩ ⟨(y 0).val, Nat.lt_of_lt_of_le (y 0).isLt (by decide)⟩))
      ∧ (∀ y : S8192.Idx, sIb.view.read (Elt F) fb y = fx (ix2 ⟨12, by decide⟩ ⟨(y 0).val + 8192, Nat.add_lt_add_right (y 0).isLt 8192⟩)))
    (hG : ∀ x : S936x16384.Idx, 432 + dlo (wid L) 12 ≤ (x 0).val → (x 0).val < 432 + dlo (wid L) 12 + (k0_t73_loop L).trips →
      G x = ft (tIx (x 0).val (fx (ix2 ⟨12, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v13_scv : Memref sig .scVector .hbm S36x100000 .f32) cc0_scoped98 cc0_scoped99 cc0_scoped100 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (432 + dlo (wid L) 12) 0 0#32
        ∗ (∀ acc, rowsInv (F := F) ((L 0).castLE hcore0) ((L 1).castLE hsub0) d (Memref.whole main_v13_scv : Memref sig .scVector .hbm S36x100000 .f32) cc0_scoped98 cc0_scoped99 cc0_scoped100 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (432 + dlo (wid L) 12) (k0_t73_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t73_loop L) (k0_t73_ok L) 0#32 (k0_t73_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v233 c0_i32_140 v244 c1_i32_142) >>= kk) Q := by
  have htr := t73_trips L
  have h1 := dlo_le_dhi (wid L) 12
  have h2 := dhi_le (wid L) 12
  refine dloop_12 (F := F) L d defs cc0_scoped98 cc0_scoped99 cc0_scoped100 (k0_t73_ok L) 0#32 _
    (k0_off889_inb L) (k0_off907_inb L) (k0_off925_inb L)
    (fun k => Scf.Loop.for k0_t74_loop k0_t74_ok 0#32 (k0_t74_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v233 c1_i32_142 k))
    (fun k => Scf.Loop.for k0_t75_loop k0_t75_ok 0#32 (k0_t75_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v233 c1_i32_142 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t73_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t74 Variants.none none Set.univ d (fun y => by rw [(hidx hpos).1 y]; exact hfx _)) kk' Q' fR fO
  · have hpos : 0 < (k0_t73_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t75 Variants.none none Set.univ d (fun y => by rw [(hidx hpos).2 y]; exact hfx _)) kk' Q' fR fO
  · have := (mem_range_iff' (wid L) 12 (dlo (wid L) 12) (by omega)).mp ⟨le_refl _, by omega⟩
    omega
  · have := (mem_range_iff' (wid L) 12 (dhi (wid L) 12 - 1) (by omega)).mp ⟨by omega, by omega⟩
    omega

set_option maxRecDepth 65536 in
set_option maxHeartbeats 4000000 in
/-- Field 13's loop over its rows, at the printed trip region. -/
theorem dinst_13 (L : grid0.Coords) (d : Dev nD) (defs : Defs nD τ sig (Elt F) Λ₀) (v19 : BitVec 32) (v38 : BitVec 32) (v233 : BitVec 32) (c0_i32_140 : BitVec 32) (v244 : BitVec 32) (c1_i32_142 : BitVec 32) (v249 : BitVec 32)
    (O : CellTallies nD τ sig (HIx 1)) (W0 : Waits sig (HIx 1)) (q : PosShare TreeShare) (fx : S26x16384.Idx → BitVec 32)
    (ft : Buf (Elt F) ((Memref.whole main_v14_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t79_loop L).trips →
      (∀ y : S8192.Idx, sIa.view.read (Elt F) fa y = fx (ix2 ⟨13, by decide⟩ ⟨(y 0).val, Nat.lt_of_lt_of_le (y 0).isLt (by decide)⟩))
      ∧ (∀ y : S8192.Idx, sIb.view.read (Elt F) fb y = fx (ix2 ⟨13, by decide⟩ ⟨(y 0).val + 8192, Nat.add_lt_add_right (y 0).isLt 8192⟩)))
    (hG : ∀ x : S936x16384.Idx, 468 + dlo (wid L) 13 ≤ (x 0).val → (x 0).val < 468 + dlo (wid L) 13 + (k0_t79_loop L).trips →
      G x = ft (tIx (x 0).val (fx (ix2 ⟨13, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v14_scv : Memref sig .scVector .hbm S36x100000 .f32) cc0_scoped106 cc0_scoped107 cc0_scoped108 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (468 + dlo (wid L) 13) 0 0#32
        ∗ (∀ acc, rowsInv (F := F) ((L 0).castLE hcore0) ((L 1).castLE hsub0) d (Memref.whole main_v14_scv : Memref sig .scVector .hbm S36x100000 .f32) cc0_scoped106 cc0_scoped107 cc0_scoped108 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (468 + dlo (wid L) 13) (k0_t79_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t79_loop L) (k0_t79_ok L) 0#32 (k0_t79_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v233 c0_i32_140 v244 c1_i32_142 v249) >>= kk) Q := by
  have htr := t79_trips L
  have h1 := dlo_le_dhi (wid L) 13
  have h2 := dhi_le (wid L) 13
  refine dloop_13 (F := F) L d defs cc0_scoped106 cc0_scoped107 cc0_scoped108 (k0_t79_ok L) 0#32 _
    (k0_off963_inb L) (k0_off981_inb L) (k0_off999_inb L)
    (fun k => Scf.Loop.for k0_t80_loop k0_t80_ok 0#32 (k0_t80_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v249 1#32 k))
    (fun k => Scf.Loop.for k0_t81_loop k0_t81_ok 0#32 (k0_t81_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v249 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t79_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t80 Variants.none none Set.univ d (fun y => by rw [(hidx hpos).1 y]; exact hfx _)) kk' Q' fR fO
  · have hpos : 0 < (k0_t79_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t81 Variants.none none Set.univ d (fun y => by rw [(hidx hpos).2 y]; exact hfx _)) kk' Q' fR fO
  · have := (mem_range_iff' (wid L) 13 (dlo (wid L) 13) (by omega)).mp ⟨le_refl _, by omega⟩
    omega
  · have := (mem_range_iff' (wid L) 13 (dhi (wid L) 13 - 1) (by omega)).mp ⟨by omega, by omega⟩
    omega

set_option maxRecDepth 65536 in
set_option maxHeartbeats 4000000 in
/-- Field 14's loop over its rows, at the printed trip region. -/
theorem dinst_14 (L : grid0.Coords) (d : Dev nD) (defs : Defs nD τ sig (Elt F) Λ₀) (v19 : BitVec 32) (v38 : BitVec 32) (v233 : BitVec 32) (c0_i32_140 : BitVec 32) (v244 : BitVec 32) (c1_i32_142 : BitVec 32) (v265 : BitVec 32)
    (O : CellTallies nD τ sig (HIx 1)) (W0 : Waits sig (HIx 1)) (q : PosShare TreeShare) (fx : S26x16384.Idx → BitVec 32)
    (ft : Buf (Elt F) ((Memref.whole main_v15_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t85_loop L).trips →
      (∀ y : S8192.Idx, sIa.view.read (Elt F) fa y = fx (ix2 ⟨14, by decide⟩ ⟨(y 0).val, Nat.lt_of_lt_of_le (y 0).isLt (by decide)⟩))
      ∧ (∀ y : S8192.Idx, sIb.view.read (Elt F) fb y = fx (ix2 ⟨14, by decide⟩ ⟨(y 0).val + 8192, Nat.add_lt_add_right (y 0).isLt 8192⟩)))
    (hG : ∀ x : S936x16384.Idx, 504 + dlo (wid L) 14 ≤ (x 0).val → (x 0).val < 504 + dlo (wid L) 14 + (k0_t85_loop L).trips →
      G x = ft (tIx (x 0).val (fx (ix2 ⟨14, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v15_scv : Memref sig .scVector .hbm S36x100000 .f32) cc0_scoped114 cc0_scoped115 cc0_scoped116 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (504 + dlo (wid L) 14) 0 0#32
        ∗ (∀ acc, rowsInv (F := F) ((L 0).castLE hcore0) ((L 1).castLE hsub0) d (Memref.whole main_v15_scv : Memref sig .scVector .hbm S36x100000 .f32) cc0_scoped114 cc0_scoped115 cc0_scoped116 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (504 + dlo (wid L) 14) (k0_t85_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t85_loop L) (k0_t85_ok L) 0#32 (k0_t85_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v233 c0_i32_140 v244 c1_i32_142 v265) >>= kk) Q := by
  have htr := t85_trips L
  have h1 := dlo_le_dhi (wid L) 14
  have h2 := dhi_le (wid L) 14
  refine dloop_14 (F := F) L d defs cc0_scoped114 cc0_scoped115 cc0_scoped116 (k0_t85_ok L) 0#32 _
    (k0_off1037_inb L) (k0_off1055_inb L) (k0_off1073_inb L)
    (fun k => Scf.Loop.for k0_t86_loop k0_t86_ok 0#32 (k0_t86_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v265 1#32 k))
    (fun k => Scf.Loop.for k0_t87_loop k0_t87_ok 0#32 (k0_t87_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v265 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t85_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t86 Variants.none none Set.univ d (fun y => by rw [(hidx hpos).1 y]; exact hfx _)) kk' Q' fR fO
  · have hpos : 0 < (k0_t85_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t87 Variants.none none Set.univ d (fun y => by rw [(hidx hpos).2 y]; exact hfx _)) kk' Q' fR fO
  · have := (mem_range_iff' (wid L) 14 (dlo (wid L) 14) (by omega)).mp ⟨le_refl _, by omega⟩
    omega
  · have := (mem_range_iff' (wid L) 14 (dhi (wid L) 14 - 1) (by omega)).mp ⟨by omega, by omega⟩
    omega

set_option maxRecDepth 65536 in
set_option maxHeartbeats 4000000 in
/-- Field 15's loop over its rows, at the printed trip region. -/
theorem dinst_15 (L : grid0.Coords) (d : Dev nD) (defs : Defs nD τ sig (Elt F) Λ₀) (v19 : BitVec 32) (v38 : BitVec 32) (c540_i32 : BitVec 32) (v281 : BitVec 32)
    (O : CellTallies nD τ sig (HIx 1)) (W0 : Waits sig (HIx 1)) (q : PosShare TreeShare) (fx : S26x16384.Idx → BitVec 32)
    (ft : Buf (Elt F) ((Memref.whole main_v16_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t91_loop L).trips →
      (∀ y : S8192.Idx, sIa.view.read (Elt F) fa y = fx (ix2 ⟨15, by decide⟩ ⟨(y 0).val, Nat.lt_of_lt_of_le (y 0).isLt (by decide)⟩))
      ∧ (∀ y : S8192.Idx, sIb.view.read (Elt F) fb y = fx (ix2 ⟨15, by decide⟩ ⟨(y 0).val + 8192, Nat.add_lt_add_right (y 0).isLt 8192⟩)))
    (hG : ∀ x : S936x16384.Idx, 540 + dlo (wid L) 15 ≤ (x 0).val → (x 0).val < 540 + dlo (wid L) 15 + (k0_t91_loop L).trips →
      G x = ft (tIx (x 0).val (fx (ix2 ⟨15, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v16_scv : Memref sig .scVector .hbm S36x100000 .f32) cc0_scoped122 cc0_scoped123 cc0_scoped124 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (540 + dlo (wid L) 15) 0 0#32
        ∗ (∀ acc, rowsInv (F := F) ((L 0).castLE hcore0) ((L 1).castLE hsub0) d (Memref.whole main_v16_scv : Memref sig .scVector .hbm S36x100000 .f32) cc0_scoped122 cc0_scoped123 cc0_scoped124 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (540 + dlo (wid L) 15) (k0_t91_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t91_loop L) (k0_t91_ok L) 0#32 (k0_t91_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c540_i32 v281) >>= kk) Q := by
  have htr := t91_trips L
  have h1 := dlo_le_dhi (wid L) 15
  have h2 := dhi_le (wid L) 15
  refine dloop_15 (F := F) L d defs cc0_scoped122 cc0_scoped123 cc0_scoped124 (k0_t91_ok L) 0#32 _
    (k0_off1111_inb L) (k0_off1129_inb L) (k0_off1147_inb L)
    (fun k => Scf.Loop.for k0_t92_loop k0_t92_ok 0#32 (k0_t92_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v281 1#32 k))
    (fun k => Scf.Loop.for k0_t93_loop k0_t93_ok 0#32 (k0_t93_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v281 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t91_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t92 Variants.none none Set.univ d (fun y => by rw [(hidx hpos).1 y]; exact hfx _)) kk' Q' fR fO
  · have hpos : 0 < (k0_t91_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t93 Variants.none none Set.univ d (fun y => by rw [(hidx hpos).2 y]; exact hfx _)) kk' Q' fR fO
  · have := (mem_range_iff' (wid L) 15 (dlo (wid L) 15) (by omega)).mp ⟨le_refl _, by omega⟩
    omega
  · have := (mem_range_iff' (wid L) 15 (dhi (wid L) 15 - 1) (by omega)).mp ⟨by omega, by omega⟩
    omega

set_option maxRecDepth 65536 in
set_option maxHeartbeats 4000000 in
/-- Field 16's loop over its rows, at the printed trip region. -/
theorem dinst_16 (L : grid0.Coords) (d : Dev nD) (defs : Defs nD τ sig (Elt F) Λ₀) (v19 : BitVec 32) (v38 : BitVec 32) (c540_i32 : BitVec 32) (v297 : BitVec 32)
    (O : CellTallies nD τ sig (HIx 1)) (W0 : Waits sig (HIx 1)) (q : PosShare TreeShare) (fx : S26x16384.Idx → BitVec 32)
    (ft : Buf (Elt F) ((Memref.whole main_v17_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t97_loop L).trips →
      (∀ y : S8192.Idx, sIa.view.read (Elt F) fa y = fx (ix2 ⟨16, by decide⟩ ⟨(y 0).val, Nat.lt_of_lt_of_le (y 0).isLt (by decide)⟩))
      ∧ (∀ y : S8192.Idx, sIb.view.read (Elt F) fb y = fx (ix2 ⟨16, by decide⟩ ⟨(y 0).val + 8192, Nat.add_lt_add_right (y 0).isLt 8192⟩)))
    (hG : ∀ x : S936x16384.Idx, 576 + dlo (wid L) 16 ≤ (x 0).val → (x 0).val < 576 + dlo (wid L) 16 + (k0_t97_loop L).trips →
      G x = ft (tIx (x 0).val (fx (ix2 ⟨16, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v17_scv : Memref sig .scVector .hbm S36x100000 .f32) cc0_scoped130 cc0_scoped131 cc0_scoped132 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (576 + dlo (wid L) 16) 0 0#32
        ∗ (∀ acc, rowsInv (F := F) ((L 0).castLE hcore0) ((L 1).castLE hsub0) d (Memref.whole main_v17_scv : Memref sig .scVector .hbm S36x100000 .f32) cc0_scoped130 cc0_scoped131 cc0_scoped132 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (576 + dlo (wid L) 16) (k0_t97_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t97_loop L) (k0_t97_ok L) 0#32 (k0_t97_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c540_i32 v297) >>= kk) Q := by
  have htr := t97_trips L
  have h1 := dlo_le_dhi (wid L) 16
  have h2 := dhi_le (wid L) 16
  refine dloop_16 (F := F) L d defs cc0_scoped130 cc0_scoped131 cc0_scoped132 (k0_t97_ok L) 0#32 _
    (k0_off1185_inb L) (k0_off1203_inb L) (k0_off1221_inb L)
    (fun k => Scf.Loop.for k0_t98_loop k0_t98_ok 0#32 (k0_t98_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v297 1#32 k))
    (fun k => Scf.Loop.for k0_t99_loop k0_t99_ok 0#32 (k0_t99_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v297 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t97_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t98 Variants.none none Set.univ d (fun y => by rw [(hidx hpos).1 y]; exact hfx _)) kk' Q' fR fO
  · have hpos : 0 < (k0_t97_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t99 Variants.none none Set.univ d (fun y => by rw [(hidx hpos).2 y]; exact hfx _)) kk' Q' fR fO
  · have := (mem_range_iff' (wid L) 16 (dlo (wid L) 16) (by omega)).mp ⟨le_refl _, by omega⟩
    omega
  · have := (mem_range_iff' (wid L) 16 (dhi (wid L) 16 - 1) (by omega)).mp ⟨by omega, by omega⟩
    omega

set_option maxRecDepth 65536 in
set_option maxHeartbeats 4000000 in
/-- Field 17's loop over its rows, at the printed trip region. -/
theorem dinst_17 (L : grid0.Coords) (d : Dev nD) (defs : Defs nD τ sig (Elt F) Λ₀) (v19 : BitVec 32) (v38 : BitVec 32) (c36_i32_185 : BitVec 32) (v312 : BitVec 32) (v313 : BitVec 32)
    (O : CellTallies nD τ sig (HIx 1)) (W0 : Waits sig (HIx 1)) (q : PosShare TreeShare) (fx : S26x16384.Idx → BitVec 32)
    (ft : Buf (Elt F) ((Memref.whole main_v18_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t103_loop L).trips →
      (∀ y : S8192.Idx, sIa.view.read (Elt F) fa y = fx (ix2 ⟨17, by decide⟩ ⟨(y 0).val, Nat.lt_of_lt_of_le (y 0).isLt (by decide)⟩))
      ∧ (∀ y : S8192.Idx, sIb.view.read (Elt F) fb y = fx (ix2 ⟨17, by decide⟩ ⟨(y 0).val + 8192, Nat.add_lt_add_right (y 0).isLt 8192⟩)))
    (hG : ∀ x : S936x16384.Idx, 612 + dlo (wid L) 17 ≤ (x 0).val → (x 0).val < 612 + dlo (wid L) 17 + (k0_t103_loop L).trips →
      G x = ft (tIx (x 0).val (fx (ix2 ⟨17, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v18_scv : Memref sig .scVector .hbm S36x100000 .f32) cc0_scoped138 cc0_scoped139 cc0_scoped140 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (612 + dlo (wid L) 17) 0 0#32
        ∗ (∀ acc, rowsInv (F := F) ((L 0).castLE hcore0) ((L 1).castLE hsub0) d (Memref.whole main_v18_scv : Memref sig .scVector .hbm S36x100000 .f32) cc0_scoped138 cc0_scoped139 cc0_scoped140 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (612 + dlo (wid L) 17) (k0_t103_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t103_loop L) (k0_t103_ok L) 0#32 (k0_t103_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_185 v312 v313) >>= kk) Q := by
  have htr := t103_trips L
  have h1 := dlo_le_dhi (wid L) 17
  have h2 := dhi_le (wid L) 17
  refine dloop_17 (F := F) L d defs cc0_scoped138 cc0_scoped139 cc0_scoped140 (k0_t103_ok L) 0#32 _
    (k0_off1259_inb L) (k0_off1277_inb L) (k0_off1295_inb L)
    (fun k => Scf.Loop.for k0_t104_loop k0_t104_ok 0#32 (k0_t104_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v313 1#32 k))
    (fun k => Scf.Loop.for k0_t105_loop k0_t105_ok 0#32 (k0_t105_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v313 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t103_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t104 Variants.none none Set.univ d (fun y => by rw [(hidx hpos).1 y]; exact hfx _)) kk' Q' fR fO
  · have hpos : 0 < (k0_t103_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t105 Variants.none none Set.univ d (fun y => by rw [(hidx hpos).2 y]; exact hfx _)) kk' Q' fR fO
  · have := (mem_range_iff' (wid L) 17 (dlo (wid L) 17) (by omega)).mp ⟨le_refl _, by omega⟩
    omega
  · have := (mem_range_iff' (wid L) 17 (dhi (wid L) 17 - 1) (by omega)).mp ⟨by omega, by omega⟩
    omega

set_option maxRecDepth 65536 in
set_option maxHeartbeats 4000000 in
/-- Field 18's loop over its rows, at the printed trip region. -/
theorem dinst_18 (L : grid0.Coords) (d : Dev nD) (defs : Defs nD τ sig (Elt F) Λ₀) (v19 : BitVec 32) (v38 : BitVec 32) (c36_i32_185 : BitVec 32) (v312 : BitVec 32) (v329 : BitVec 32)
    (O : CellTallies nD τ sig (HIx 1)) (W0 : Waits sig (HIx 1)) (q : PosShare TreeShare) (fx : S26x16384.Idx → BitVec 32)
    (ft : Buf (Elt F) ((Memref.whole main_v19_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t109_loop L).trips →
      (∀ y : S8192.Idx, sIa.view.read (Elt F) fa y = fx (ix2 ⟨18, by decide⟩ ⟨(y 0).val, Nat.lt_of_lt_of_le (y 0).isLt (by decide)⟩))
      ∧ (∀ y : S8192.Idx, sIb.view.read (Elt F) fb y = fx (ix2 ⟨18, by decide⟩ ⟨(y 0).val + 8192, Nat.add_lt_add_right (y 0).isLt 8192⟩)))
    (hG : ∀ x : S936x16384.Idx, 648 + dlo (wid L) 18 ≤ (x 0).val → (x 0).val < 648 + dlo (wid L) 18 + (k0_t109_loop L).trips →
      G x = ft (tIx (x 0).val (fx (ix2 ⟨18, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v19_scv : Memref sig .scVector .hbm S36x100000 .f32) cc0_scoped146 cc0_scoped147 cc0_scoped148 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (648 + dlo (wid L) 18) 0 0#32
        ∗ (∀ acc, rowsInv (F := F) ((L 0).castLE hcore0) ((L 1).castLE hsub0) d (Memref.whole main_v19_scv : Memref sig .scVector .hbm S36x100000 .f32) cc0_scoped146 cc0_scoped147 cc0_scoped148 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (648 + dlo (wid L) 18) (k0_t109_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t109_loop L) (k0_t109_ok L) 0#32 (k0_t109_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_185 v312 v329) >>= kk) Q := by
  have htr := t109_trips L
  have h1 := dlo_le_dhi (wid L) 18
  have h2 := dhi_le (wid L) 18
  refine dloop_18 (F := F) L d defs cc0_scoped146 cc0_scoped147 cc0_scoped148 (k0_t109_ok L) 0#32 _
    (k0_off1333_inb L) (k0_off1351_inb L) (k0_off1369_inb L)
    (fun k => Scf.Loop.for k0_t110_loop k0_t110_ok 0#32 (k0_t110_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v329 1#32 k))
    (fun k => Scf.Loop.for k0_t111_loop k0_t111_ok 0#32 (k0_t111_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v329 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t109_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t110 Variants.none none Set.univ d (fun y => by rw [(hidx hpos).1 y]; exact hfx _)) kk' Q' fR fO
  · have hpos : 0 < (k0_t109_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t111 Variants.none none Set.univ d (fun y => by rw [(hidx hpos).2 y]; exact hfx _)) kk' Q' fR fO
  · have := (mem_range_iff' (wid L) 18 (dlo (wid L) 18) (by omega)).mp ⟨le_refl _, by omega⟩
    omega
  · have := (mem_range_iff' (wid L) 18 (dhi (wid L) 18 - 1) (by omega)).mp ⟨by omega, by omega⟩
    omega

set_option maxRecDepth 65536 in
set_option maxHeartbeats 4000000 in
/-- Field 19's loop over its rows, at the printed trip region. -/
theorem dinst_19 (L : grid0.Coords) (d : Dev nD) (defs : Defs nD τ sig (Elt F) Λ₀) (v19 : BitVec 32) (v38 : BitVec 32) (v345 : BitVec 32) (v346 : BitVec 32) (c0_i32_207 : BitVec 32)
    (O : CellTallies nD τ sig (HIx 1)) (W0 : Waits sig (HIx 1)) (q : PosShare TreeShare) (fx : S26x16384.Idx → BitVec 32)
    (ft : Buf (Elt F) ((Memref.whole main_v20_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t115_loop L).trips →
      (∀ y : S8192.Idx, sIa.view.read (Elt F) fa y = fx (ix2 ⟨19, by decide⟩ ⟨(y 0).val, Nat.lt_of_lt_of_le (y 0).isLt (by decide)⟩))
      ∧ (∀ y : S8192.Idx, sIb.view.read (Elt F) fb y = fx (ix2 ⟨19, by decide⟩ ⟨(y 0).val + 8192, Nat.add_lt_add_right (y 0).isLt 8192⟩)))
    (hG : ∀ x : S936x16384.Idx, 684 + dlo (wid L) 19 ≤ (x 0).val → (x 0).val < 684 + dlo (wid L) 19 + (k0_t115_loop L).trips →
      G x = ft (tIx (x 0).val (fx (ix2 ⟨19, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v20_scv : Memref sig .scVector .hbm S36x100000 .f32) cc0_scoped154 cc0_scoped155 cc0_scoped156 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (684 + dlo (wid L) 19) 0 0#32
        ∗ (∀ acc, rowsInv (F := F) ((L 0).castLE hcore0) ((L 1).castLE hsub0) d (Memref.whole main_v20_scv : Memref sig .scVector .hbm S36x100000 .f32) cc0_scoped154 cc0_scoped155 cc0_scoped156 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (684 + dlo (wid L) 19) (k0_t115_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t115_loop L) (k0_t115_ok L) 0#32 (k0_t115_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v345 v346 c0_i32_207) >>= kk) Q := by
  have htr := t115_trips L
  have h1 := dlo_le_dhi (wid L) 19
  have h2 := dhi_le (wid L) 19
  refine dloop_19 (F := F) L d defs cc0_scoped154 cc0_scoped155 cc0_scoped156 (k0_t115_ok L) 0#32 _
    (k0_off1407_inb L) (k0_off1425_inb L) (k0_off1443_inb L)
    (fun k => Scf.Loop.for k0_t116_loop k0_t116_ok 0#32 (k0_t116_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v345 1#32 k))
    (fun k => Scf.Loop.for k0_t117_loop k0_t117_ok 0#32 (k0_t117_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v345 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t115_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t116 Variants.none none Set.univ d (fun y => by rw [(hidx hpos).1 y]; exact hfx _)) kk' Q' fR fO
  · have hpos : 0 < (k0_t115_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t117 Variants.none none Set.univ d (fun y => by rw [(hidx hpos).2 y]; exact hfx _)) kk' Q' fR fO
  · have := (mem_range_iff' (wid L) 19 (dlo (wid L) 19) (by omega)).mp ⟨le_refl _, by omega⟩
    omega
  · have := (mem_range_iff' (wid L) 19 (dhi (wid L) 19 - 1) (by omega)).mp ⟨by omega, by omega⟩
    omega

set_option maxRecDepth 65536 in
set_option maxHeartbeats 4000000 in
/-- Field 20's loop over its rows, at the printed trip region. -/
theorem dinst_20 (L : grid0.Coords) (d : Dev nD) (defs : Defs nD τ sig (Elt F) Λ₀) (v19 : BitVec 32) (v38 : BitVec 32) (v345 : BitVec 32) (v346 : BitVec 32) (c0_i32_207 : BitVec 32) (v361 : BitVec 32)
    (O : CellTallies nD τ sig (HIx 1)) (W0 : Waits sig (HIx 1)) (q : PosShare TreeShare) (fx : S26x16384.Idx → BitVec 32)
    (ft : Buf (Elt F) ((Memref.whole main_v21_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t121_loop L).trips →
      (∀ y : S8192.Idx, sIa.view.read (Elt F) fa y = fx (ix2 ⟨20, by decide⟩ ⟨(y 0).val, Nat.lt_of_lt_of_le (y 0).isLt (by decide)⟩))
      ∧ (∀ y : S8192.Idx, sIb.view.read (Elt F) fb y = fx (ix2 ⟨20, by decide⟩ ⟨(y 0).val + 8192, Nat.add_lt_add_right (y 0).isLt 8192⟩)))
    (hG : ∀ x : S936x16384.Idx, 720 + dlo (wid L) 20 ≤ (x 0).val → (x 0).val < 720 + dlo (wid L) 20 + (k0_t121_loop L).trips →
      G x = ft (tIx (x 0).val (fx (ix2 ⟨20, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v21_scv : Memref sig .scVector .hbm S36x100000 .f32) cc0_scoped162 cc0_scoped163 cc0_scoped164 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (720 + dlo (wid L) 20) 0 0#32
        ∗ (∀ acc, rowsInv (F := F) ((L 0).castLE hcore0) ((L 1).castLE hsub0) d (Memref.whole main_v21_scv : Memref sig .scVector .hbm S36x100000 .f32) cc0_scoped162 cc0_scoped163 cc0_scoped164 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (720 + dlo (wid L) 20) (k0_t121_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t121_loop L) (k0_t121_ok L) 0#32 (k0_t121_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v345 v346 c0_i32_207 v361) >>= kk) Q := by
  have htr := t121_trips L
  have h1 := dlo_le_dhi (wid L) 20
  have h2 := dhi_le (wid L) 20
  refine dloop_20 (F := F) L d defs cc0_scoped162 cc0_scoped163 cc0_scoped164 (k0_t121_ok L) 0#32 _
    (k0_off1481_inb L) (k0_off1499_inb L) (k0_off1517_inb L)
    (fun k => Scf.Loop.for k0_t122_loop k0_t122_ok 0#32 (k0_t122_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v361 1#32 k))
    (fun k => Scf.Loop.for k0_t123_loop k0_t123_ok 0#32 (k0_t123_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v361 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t121_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t122 Variants.none none Set.univ d (fun y => by rw [(hidx hpos).1 y]; exact hfx _)) kk' Q' fR fO
  · have hpos : 0 < (k0_t121_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t123 Variants.none none Set.univ d (fun y => by rw [(hidx hpos).2 y]; exact hfx _)) kk' Q' fR fO
  · have := (mem_range_iff' (wid L) 20 (dlo (wid L) 20) (by omega)).mp ⟨le_refl _, by omega⟩
    omega
  · have := (mem_range_iff' (wid L) 20 (dhi (wid L) 20 - 1) (by omega)).mp ⟨by omega, by omega⟩
    omega

set_option maxRecDepth 65536 in
set_option maxHeartbeats 4000000 in
/-- Field 21's loop over its rows, at the printed trip region. -/
theorem dinst_21 (L : grid0.Coords) (d : Dev nD) (defs : Defs nD τ sig (Elt F) Λ₀) (v19 : BitVec 32) (v38 : BitVec 32) (v377 : BitVec 32) (v380 : BitVec 32) (v381 : BitVec 1)
    (O : CellTallies nD τ sig (HIx 1)) (W0 : Waits sig (HIx 1)) (q : PosShare TreeShare) (fx : S26x16384.Idx → BitVec 32)
    (ft : Buf (Elt F) ((Memref.whole main_v22_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t127_loop L).trips →
      (∀ y : S8192.Idx, sIa.view.read (Elt F) fa y = fx (ix2 ⟨21, by decide⟩ ⟨(y 0).val, Nat.lt_of_lt_of_le (y 0).isLt (by decide)⟩))
      ∧ (∀ y : S8192.Idx, sIb.view.read (Elt F) fb y = fx (ix2 ⟨21, by decide⟩ ⟨(y 0).val + 8192, Nat.add_lt_add_right (y 0).isLt 8192⟩)))
    (hG : ∀ x : S936x16384.Idx, 756 + dlo (wid L) 21 ≤ (x 0).val → (x 0).val < 756 + dlo (wid L) 21 + (k0_t127_loop L).trips →
      G x = ft (tIx (x 0).val (fx (ix2 ⟨21, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v22_scv : Memref sig .scVector .hbm S36x100000 .f32) cc0_scoped170 cc0_scoped171 cc0_scoped172 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (756 + dlo (wid L) 21) 0 0#32
        ∗ (∀ acc, rowsInv (F := F) ((L 0).castLE hcore0) ((L 1).castLE hsub0) d (Memref.whole main_v22_scv : Memref sig .scVector .hbm S36x100000 .f32) cc0_scoped170 cc0_scoped171 cc0_scoped172 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (756 + dlo (wid L) 21) (k0_t127_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t127_loop L) (k0_t127_ok L) 0#32 (k0_t127_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v377 v380 v381) >>= kk) Q := by
  have htr := t127_trips L
  have h1 := dlo_le_dhi (wid L) 21
  have h2 := dhi_le (wid L) 21
  refine dloop_21 (F := F) L d defs cc0_scoped170 cc0_scoped171 cc0_scoped172 (k0_t127_ok L) 0#32 _
    (k0_off1555_inb L) (k0_off1573_inb L) (k0_off1591_inb L)
    (fun k => Scf.Loop.for k0_t128_loop k0_t128_ok 0#32 (k0_t128_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v377 1#32 k))
    (fun k => Scf.Loop.for k0_t129_loop k0_t129_ok 0#32 (k0_t129_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v377 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t127_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t128 Variants.none none Set.univ d (fun y => by rw [(hidx hpos).1 y]; exact hfx _)) kk' Q' fR fO
  · have hpos : 0 < (k0_t127_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t129 Variants.none none Set.univ d (fun y => by rw [(hidx hpos).2 y]; exact hfx _)) kk' Q' fR fO
  · have := (mem_range_iff' (wid L) 21 (dlo (wid L) 21) (by omega)).mp ⟨le_refl _, by omega⟩
    omega
  · have := (mem_range_iff' (wid L) 21 (dhi (wid L) 21 - 1) (by omega)).mp ⟨by omega, by omega⟩
    omega

set_option maxRecDepth 65536 in
set_option maxHeartbeats 4000000 in
/-- Field 22's loop over its rows, at the printed trip region. -/
theorem dinst_22 (L : grid0.Coords) (d : Dev nD) (defs : Defs nD τ sig (Elt F) Λ₀) (v19 : BitVec 32) (v38 : BitVec 32) (v377 : BitVec 32) (v380 : BitVec 32) (v381 : BitVec 1) (v393 : BitVec 32)
    (O : CellTallies nD τ sig (HIx 1)) (W0 : Waits sig (HIx 1)) (q : PosShare TreeShare) (fx : S26x16384.Idx → BitVec 32)
    (ft : Buf (Elt F) ((Memref.whole main_v23_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t133_loop L).trips →
      (∀ y : S8192.Idx, sIa.view.read (Elt F) fa y = fx (ix2 ⟨22, by decide⟩ ⟨(y 0).val, Nat.lt_of_lt_of_le (y 0).isLt (by decide)⟩))
      ∧ (∀ y : S8192.Idx, sIb.view.read (Elt F) fb y = fx (ix2 ⟨22, by decide⟩ ⟨(y 0).val + 8192, Nat.add_lt_add_right (y 0).isLt 8192⟩)))
    (hG : ∀ x : S936x16384.Idx, 792 + dlo (wid L) 22 ≤ (x 0).val → (x 0).val < 792 + dlo (wid L) 22 + (k0_t133_loop L).trips →
      G x = ft (tIx (x 0).val (fx (ix2 ⟨22, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v23_scv : Memref sig .scVector .hbm S36x100000 .f32) cc0_scoped178 cc0_scoped179 cc0_scoped180 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (792 + dlo (wid L) 22) 0 0#32
        ∗ (∀ acc, rowsInv (F := F) ((L 0).castLE hcore0) ((L 1).castLE hsub0) d (Memref.whole main_v23_scv : Memref sig .scVector .hbm S36x100000 .f32) cc0_scoped178 cc0_scoped179 cc0_scoped180 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (792 + dlo (wid L) 22) (k0_t133_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t133_loop L) (k0_t133_ok L) 0#32 (k0_t133_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v377 v380 v381 v393) >>= kk) Q := by
  have htr := t133_trips L
  have h1 := dlo_le_dhi (wid L) 22
  have h2 := dhi_le (wid L) 22
  refine dloop_22 (F := F) L d defs cc0_scoped178 cc0_scoped179 cc0_scoped180 (k0_t133_ok L) 0#32 _
    (k0_off1629_inb L) (k0_off1647_inb L) (k0_off1665_inb L)
    (fun k => Scf.Loop.for k0_t134_loop k0_t134_ok 0#32 (k0_t134_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v393 1#32 k))
    (fun k => Scf.Loop.for k0_t135_loop k0_t135_ok 0#32 (k0_t135_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v393 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t133_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t134 Variants.none none Set.univ d (fun y => by rw [(hidx hpos).1 y]; exact hfx _)) kk' Q' fR fO
  · have hpos : 0 < (k0_t133_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t135 Variants.none none Set.univ d (fun y => by rw [(hidx hpos).2 y]; exact hfx _)) kk' Q' fR fO
  · have := (mem_range_iff' (wid L) 22 (dlo (wid L) 22) (by omega)).mp ⟨le_refl _, by omega⟩
    omega
  · have := (mem_range_iff' (wid L) 22 (dhi (wid L) 22 - 1) (by omega)).mp ⟨by omega, by omega⟩
    omega

set_option maxRecDepth 65536 in
set_option maxHeartbeats 4000000 in
/-- Field 23's loop over its rows, at the printed trip region. -/
theorem dinst_23 (L : grid0.Coords) (d : Dev nD) (defs : Defs nD τ sig (Elt F) Λ₀) (v19 : BitVec 32) (v38 : BitVec 32) (v409 : BitVec 32) (v412 : BitVec 32)
    (O : CellTallies nD τ sig (HIx 1)) (W0 : Waits sig (HIx 1)) (q : PosShare TreeShare) (fx : S26x16384.Idx → BitVec 32)
    (ft : Buf (Elt F) ((Memref.whole main_v24_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t139_loop L).trips →
      (∀ y : S8192.Idx, sIa.view.read (Elt F) fa y = fx (ix2 ⟨23, by decide⟩ ⟨(y 0).val, Nat.lt_of_lt_of_le (y 0).isLt (by decide)⟩))
      ∧ (∀ y : S8192.Idx, sIb.view.read (Elt F) fb y = fx (ix2 ⟨23, by decide⟩ ⟨(y 0).val + 8192, Nat.add_lt_add_right (y 0).isLt 8192⟩)))
    (hG : ∀ x : S936x16384.Idx, 828 + dlo (wid L) 23 ≤ (x 0).val → (x 0).val < 828 + dlo (wid L) 23 + (k0_t139_loop L).trips →
      G x = ft (tIx (x 0).val (fx (ix2 ⟨23, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v24_scv : Memref sig .scVector .hbm S36x100000 .f32) cc0_scoped186 cc0_scoped187 cc0_scoped188 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (828 + dlo (wid L) 23) 0 0#32
        ∗ (∀ acc, rowsInv (F := F) ((L 0).castLE hcore0) ((L 1).castLE hsub0) d (Memref.whole main_v24_scv : Memref sig .scVector .hbm S36x100000 .f32) cc0_scoped186 cc0_scoped187 cc0_scoped188 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (828 + dlo (wid L) 23) (k0_t139_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t139_loop L) (k0_t139_ok L) 0#32 (k0_t139_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v409 v412) >>= kk) Q := by
  have htr := t139_trips L
  have h1 := dlo_le_dhi (wid L) 23
  have h2 := dhi_le (wid L) 23
  refine dloop_23 (F := F) L d defs cc0_scoped186 cc0_scoped187 cc0_scoped188 (k0_t139_ok L) 0#32 _
    (k0_off1703_inb L) (k0_off1721_inb L) (k0_off1739_inb L)
    (fun k => Scf.Loop.for k0_t140_loop k0_t140_ok 0#32 (k0_t140_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v409 1#32 k))
    (fun k => Scf.Loop.for k0_t141_loop k0_t141_ok 0#32 (k0_t141_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v409 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t139_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t140 Variants.none none Set.univ d (fun y => by rw [(hidx hpos).1 y]; exact hfx _)) kk' Q' fR fO
  · have hpos : 0 < (k0_t139_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t141 Variants.none none Set.univ d (fun y => by rw [(hidx hpos).2 y]; exact hfx _)) kk' Q' fR fO
  · have := (mem_range_iff' (wid L) 23 (dlo (wid L) 23) (by omega)).mp ⟨le_refl _, by omega⟩
    omega
  · have := (mem_range_iff' (wid L) 23 (dhi (wid L) 23 - 1) (by omega)).mp ⟨by omega, by omega⟩
    omega

set_option maxRecDepth 65536 in
set_option maxHeartbeats 4000000 in
/-- Field 24's loop over its rows, at the printed trip region. -/
theorem dinst_24 (L : grid0.Coords) (d : Dev nD) (defs : Defs nD τ sig (Elt F) Λ₀) (v19 : BitVec 32) (v38 : BitVec 32) (v409 : BitVec 32) (v412 : BitVec 32) (v425 : BitVec 32)
    (O : CellTallies nD τ sig (HIx 1)) (W0 : Waits sig (HIx 1)) (q : PosShare TreeShare) (fx : S26x16384.Idx → BitVec 32)
    (ft : Buf (Elt F) ((Memref.whole main_v25_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t145_loop L).trips →
      (∀ y : S8192.Idx, sIa.view.read (Elt F) fa y = fx (ix2 ⟨24, by decide⟩ ⟨(y 0).val, Nat.lt_of_lt_of_le (y 0).isLt (by decide)⟩))
      ∧ (∀ y : S8192.Idx, sIb.view.read (Elt F) fb y = fx (ix2 ⟨24, by decide⟩ ⟨(y 0).val + 8192, Nat.add_lt_add_right (y 0).isLt 8192⟩)))
    (hG : ∀ x : S936x16384.Idx, 864 + dlo (wid L) 24 ≤ (x 0).val → (x 0).val < 864 + dlo (wid L) 24 + (k0_t145_loop L).trips →
      G x = ft (tIx (x 0).val (fx (ix2 ⟨24, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v25_scv : Memref sig .scVector .hbm S36x100000 .f32) cc0_scoped194 cc0_scoped195 cc0_scoped196 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (864 + dlo (wid L) 24) 0 0#32
        ∗ (∀ acc, rowsInv (F := F) ((L 0).castLE hcore0) ((L 1).castLE hsub0) d (Memref.whole main_v25_scv : Memref sig .scVector .hbm S36x100000 .f32) cc0_scoped194 cc0_scoped195 cc0_scoped196 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (864 + dlo (wid L) 24) (k0_t145_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t145_loop L) (k0_t145_ok L) 0#32 (k0_t145_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v409 v412 v425) >>= kk) Q := by
  have htr := t145_trips L
  have h1 := dlo_le_dhi (wid L) 24
  have h2 := dhi_le (wid L) 24
  refine dloop_24 (F := F) L d defs cc0_scoped194 cc0_scoped195 cc0_scoped196 (k0_t145_ok L) 0#32 _
    (k0_off1777_inb L) (k0_off1795_inb L) (k0_off1813_inb L)
    (fun k => Scf.Loop.for k0_t146_loop k0_t146_ok 0#32 (k0_t146_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v425 1#32 k))
    (fun k => Scf.Loop.for k0_t147_loop k0_t147_ok 0#32 (k0_t147_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v425 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t145_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t146 Variants.none none Set.univ d (fun y => by rw [(hidx hpos).1 y]; exact hfx _)) kk' Q' fR fO
  · have hpos : 0 < (k0_t145_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t147 Variants.none none Set.univ d (fun y => by rw [(hidx hpos).2 y]; exact hfx _)) kk' Q' fR fO
  · have := (mem_range_iff' (wid L) 24 (dlo (wid L) 24) (by omega)).mp ⟨le_refl _, by omega⟩
    omega
  · have := (mem_range_iff' (wid L) 24 (dhi (wid L) 24 - 1) (by omega)).mp ⟨by omega, by omega⟩
    omega

set_option maxRecDepth 65536 in
set_option maxHeartbeats 4000000 in
/-- Field 25's loop over its rows, at the printed trip region. -/
theorem dinst_25 (L : grid0.Coords) (d : Dev nD) (defs : Defs nD τ sig (Elt F) Λ₀) (v441 : BitVec 32)
    (O : CellTallies nD τ sig (HIx 1)) (W0 : Waits sig (HIx 1)) (q : PosShare TreeShare) (fx : S26x16384.Idx → BitVec 32)
    (ft : Buf (Elt F) ((Memref.whole main_v26_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t151_loop L).trips →
      (∀ y : S8192.Idx, sIa.view.read (Elt F) fa y = fx (ix2 ⟨25, by decide⟩ ⟨(y 0).val, Nat.lt_of_lt_of_le (y 0).isLt (by decide)⟩))
      ∧ (∀ y : S8192.Idx, sIb.view.read (Elt F) fb y = fx (ix2 ⟨25, by decide⟩ ⟨(y 0).val + 8192, Nat.add_lt_add_right (y 0).isLt 8192⟩)))
    (hG : ∀ x : S936x16384.Idx, 900 + dlo (wid L) 25 ≤ (x 0).val → (x 0).val < 900 + dlo (wid L) 25 + (k0_t151_loop L).trips →
      G x = ft (tIx (x 0).val (fx (ix2 ⟨25, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v26_scv : Memref sig .scVector .hbm S36x100000 .f32) cc0_scoped202 cc0_scoped203 cc0_scoped204 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (900 + dlo (wid L) 25) 0 0#32
        ∗ (∀ acc, rowsInv (F := F) ((L 0).castLE hcore0) ((L 1).castLE hsub0) d (Memref.whole main_v26_scv : Memref sig .scVector .hbm S36x100000 .f32) cc0_scoped202 cc0_scoped203 cc0_scoped204 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (900 + dlo (wid L) 25) (k0_t151_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t151_loop L) (k0_t151_ok L) 0#32 (k0_t151_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v441) >>= kk) Q := by
  have htr := t151_trips L
  have h1 := dlo_le_dhi (wid L) 25
  have h2 := dhi_le (wid L) 25
  refine dloop_25 (F := F) L d defs cc0_scoped202 cc0_scoped203 cc0_scoped204 (k0_t151_ok L) 0#32 _
    (k0_off1851_inb L) (k0_off1869_inb L) (k0_off1887_inb L)
    (fun k => Scf.Loop.for k0_t152_loop k0_t152_ok 0#32 (k0_t152_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v441 1#32 k))
    (fun k => Scf.Loop.for k0_t153_loop k0_t153_ok 0#32 (k0_t153_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v441 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t151_loop L).trips := Nat.lt_of_le_of_lt (Nat.zero_le _) k.isLt
    unfold GatherRule
    intro α' kk' Q' fR fO
    exact gatherRule_of (F := F) _ _ defs d _ sIa fa (fun kk'' Q'' fR' fO' =>
      Cert.KernelIdeal.Gather.loop_t152 Variants.none none Set.univ d (fun y => by rw [(hidx hpos).1 y]; exact hfx _)) kk' Q' fR fO
  · have hpos : 0 < (k0_t151_loop L).trips := Nat.lt_of_le_of_lt (Nat.zero_le _) k.isLt
    unfold GatherRule
    intro α' kk' Q' fR fO
    exact gatherRule_of (F := F) _ _ defs d _ sIb fb (fun kk'' Q'' fR' fO' =>
      Cert.KernelIdeal.Gather.loop_t153 Variants.none none Set.univ d (fun y => by rw [(hidx hpos).2 y]; exact hfx _)) kk' Q' fR fO
  · have := (mem_range_iff' (wid L) 25 (dlo (wid L) 25) (by omega)).mp ⟨le_refl _, by omega⟩
    omega
  · have := (mem_range_iff' (wid L) 25 (dhi (wid L) 25 - 1) (by omega)).mp ⟨by omega, by omega⟩
    omega

end Cert.Proof.BodyRow
-- ==== Proof.BodyRulesGen.lean ====
import proofs.«204037_g66941360275737_cont_sun_c4_657_24_alg».proof.Proof.BodyTopBase
import proofs.«204037_g66941360275737_cont_sun_c4_657_24_alg».proof.Proof.BodyRow

/-!
# From the loop over a field's rows to the field's rule

The loop over the rows of field `j` is proved from an invariant (the table, the scratch buffers, the tile's output
rows agreeing with the specified values below the current row, the three semaphores, what the tile owes). The rule the
tile's run asks of the field's loop is that invariant at no trips packed from its separate resources, and at the last
trip unpacked into them.
-/

noncomputable section

namespace Cert.Proof.BodyRules

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀
open Cert.UnitArith Cert.KernelIdeal.UnitArithK
open Cert.Proof.BodyTop

variable {F : FTy → Type} [FloatOps F]

local notation "𝕄" => MT nD τ sig (HIx 1) (Elt F) ℕ BodyTop.UU ℕ

variable (L : grid0.Coords) (d : Dev nD) (defs : Defs nD τ sig (Elt F) Λ₀)

/-- The value a field's loop leaves at output element `x`: the table's entry at component `x 0 % 36` and the row the
    index word at `(j, x 1)` names. -/
def GV (j : ℕ) (hj : j < 26) (fx : S26x16384.Idx → BitVec 32) (ft : S36x100000.Idx → Elt F .f32) : S936x16384.Idx → Elt F .f32 :=
  fun x => ft (ix2 (Cert.Spec.compOf (x 0)) (Cert.Spec.rowIx (fx (ix2 ⟨j, hj⟩ (x 1)))))

/-- The shape of a field's loop invariant before trip `k`: what the tile may wait on, the table at a read share, the two
    scratch buffers at some contents, the two index buffers, the tile's output rows agreeing with `G` on the field's
    rows below `k` and with `g0` elsewhere, the three semaphores at zero, and what the tile owes. -/
def RIshape (j : ℕ) (Tpt : PosShare TreeShare → (S36x100000.Idx → Elt F .f32) → sProp 𝕄) (s1 s2 s3 : DmaSems sig S_)
    (O : CellTallies nD τ sig (HIx 1)) (W0 : Waits sig (HIx 1)) (q : PosShare TreeShare) (ft : S36x100000.Idx → Elt F .f32)
    (fa : Buf (Elt F) ((mIa).view.loc (thr L d))) (fb : Buf (Elt F) ((mIb).view.loc (thr L d)))
    (G g0 : Buf (Elt F) ((mO).view.loc (thr L d))) (k : ℕ) : sProp 𝕄 :=
  iprop(Transfers.MayWaits (thr L d) (none : HIx 1) O
    ∗ Tpt q ft
    ∗ (∃ fr, (mRow).view.loc (thr L d) ↦{fullShare} fr)
    ∗ (∃ fo, (mOch).view.loc (thr L d) ↦{fullShare} fo)
    ∗ ((mIa).view.loc (thr L d) ↦{fullShare} fa) ∗ ((mIb).view.loc (thr L d) ↦{fullShare} fb)
    ∗ (∃ g, ((mO).view.loc (thr L d) ↦[rowsSet (Cert.Spec.lo (wid L)) (Cert.Spec.hi (wid L))]{fullShare} g)
        ∗ ⌜∀ x ∈ rowsSet (Cert.Spec.lo (wid L)) (Cert.Spec.hi (wid L)),
            g x = if 36 * j + dlo (wid L) j ≤ (x 0).val ∧ (x 0).val < 36 * j + dlo (wid L) j + k then G x else g0 x⌝)
    ∗ semVal ((thr L d), SemLoc.dma s1.sem) 0
    ∗ semVal ((thr L d), SemLoc.dma s2.sem) 0
    ∗ semVal ((thr L d), SemLoc.dma s3.sem) 0
    ∗ ∃ W', owes (thr L d) O W' ∗ ⌜∀ p ∈ W', p ∈ W0 ∨ p.2 = none⌝)

/-- The field's rule from the loop's rule over its invariant `RI` (`hRI`: what the invariant is, before trip `k`). -/
theorem drule_of_rows (j : ℕ) (hj : j < 26) (Tpt : PosShare TreeShare → (S36x100000.Idx → Elt F .f32) → sProp 𝕄)
    (s1 s2 s3 : DmaSems sig S_) (l : Scf.Loop 32) (hok : l.OK) (body : Fin l.trips → BitVec 32 → PT (F := F) L (BitVec 32))
    (RI : CellTallies nD τ sig (HIx 1) → Waits sig (HIx 1) → PosShare TreeShare → (S36x100000.Idx → Elt F .f32)
        → Buf (Elt F) ((mIa).view.loc (thr L d)) → Buf (Elt F) ((mIb).view.loc (thr L d))
        → Buf (Elt F) ((mO).view.loc (thr L d)) → Buf (Elt F) ((mO).view.loc (thr L d)) → ℕ → BitVec 32 → sProp 𝕄)
    (hRI : ∀ O W0 q ft fa fb G g0 k acc, RI O W0 q ft fa fb G g0 k acc = RIshape (F := F) L d j Tpt s1 s2 s3 O W0 q ft fa fb G g0 k)
    (hrows : ∀ (O : CellTallies nD τ sig (HIx 1)) (W0 : Waits sig (HIx 1)) (q : PosShare TreeShare)
        (fx : S26x16384.Idx → BitVec 32) (ft : S36x100000.Idx → Elt F .f32)
        (fa : Buf (Elt F) ((mIa).view.loc (thr L d))) (fb : Buf (Elt F) ((mIb).view.loc (thr L d)))
        (G g0 : Buf (Elt F) ((mO).view.loc (thr L d))),
        (∀ y, (fx y).toNat < 100000) →
        (0 < l.trips → (∀ y : S8192.Idx, (mIa).view.read (Elt F) fa y = fx (ix2 ⟨j, hj⟩ ⟨(y 0).val, Nat.lt_of_lt_of_le (y 0).isLt (by decide)⟩))
            ∧ (∀ y : S8192.Idx, (mIb).view.read (Elt F) fb y = fx (ix2 ⟨j, hj⟩ ⟨(y 0).val + 8192, Nat.add_lt_add_right (y 0).isLt 8192⟩))) →
        (∀ x : S936x16384.Idx, 36 * j + dlo (wid L) j ≤ (x 0).val → (x 0).val < 36 * j + dlo (wid L) j + l.trips →
            G x = ft (ix2 ⟨(x 0).val % 36, Nat.mod_lt _ (by decide)⟩ ⟨(fx (ix2 ⟨j, hj⟩ (x 1))).toNat % 100000, Nat.mod_lt _ (by decide)⟩)) →
        ∀ {α : Type} (kk : BitVec 32 → PT (F := F) L α) (Q : α → sProp 𝕄),
          iprop(RI O W0 q ft fa fb G g0 0 0#32
              ∗ (∀ acc, RI O W0 q ft fa fb G g0 l.trips acc -∗ wp frame (wpE defs Variants.none (thr L d) none) Set.univ (kk acc) Q))
            ⊢ wp frame (wpE defs Variants.none (thr L d) none) Set.univ (Scf.Loop.for l hok 0#32 body >>= kk) Q) :
    DRule (F := F) L d defs j hj Tpt s1 s2 s3 l hok body := by
  intro α kk Q O W0 W q fx ft fr fo fa fb g0 hW hfx hidx
  refine BIBase.Entails.trans ?_ (hrows O W0 q fx ft fa fb (GV (F := F) j hj fx ft) g0 hfx ?hidx (fun x _ _ => rfl) kk Q)
  case hidx =>
    intro h
    obtain ⟨ha, hb⟩ := hidx h
    exact ⟨fun y => by rw [eq_ix1 y]; exact ha (y 0).val (y 0).isLt, fun y => by rw [eq_ix1 y]; exact hb (y 0).val (y 0).isLt⟩
  simp only [hRI, RIshape]
  iintro ⟨Hmw, Ht, Hr, Ho, Ha, Hb, Hg, Hs1, Hs2, Hs3, HO, Hk⟩
  isplitr [Hk]
  · isplitl [Hmw]; · iexact Hmw
    isplitl [Ht]; · iexact Ht
    isplitl [Hr]; · iexists fr; iexact Hr
    isplitl [Ho]; · iexists fo; iexact Ho
    isplitl [Ha]; · iexact Ha
    isplitl [Hb]; · iexact Hb
    isplitl [Hg]
    · iexists g0
      isplitl [Hg]; · iexact Hg
      ipureintro
      intro x _
      rw [if_neg (by omega)]
    isplitl [Hs1]; · iexact Hs1
    isplitl [Hs2]; · iexact Hs2
    isplitl [Hs3]; · iexact Hs3
    iexists W
    isplitl [HO]; · iexact HO
    ipureintro; exact hW
  · iintro %acc HI
    icases HI with ⟨Hmw, Ht, ⟨%fr', Hr⟩, ⟨%fo', Ho⟩, Ha, Hb, ⟨%g, Hg, %hg⟩, Hs1, Hs2, Hs3, ⟨%W', HO, %hW'⟩⟩
    ispecialize Hk $$ %acc %fr' %fo' %g %W' %hg %hW' Hmw Ht Hr Ho Ha Hb Hg Hs1 Hs2 Hs3 HO
    iexact Hk

end Cert.Proof.BodyRules
-- ==== Proof.BodyRules.lean ====
import proofs.«204037_g66941360275737_cont_sun_c4_657_24_alg».proof.Proof.BodyRowInst
import proofs.«204037_g66941360275737_cont_sun_c4_657_24_alg».proof.Proof.BodyRulesGen

/-!
# The 26 fields' loop rules

Each field's loop over the tile's rows, proved from its invariant, meets the rule the tile's run asks of it: the
invariant's shape is the one the bridge expects, by unfolding.
-/

noncomputable section

namespace Cert.Proof.BodyRules

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀
open Cert.UnitArith Cert.KernelIdeal.UnitArithK
open Cert.Proof.BodyTop

variable {F : FTy → Type} [FloatOps F]

local notation "𝕄" => MT nD τ sig (HIx 1) (Elt F) ℕ BodyTop.UU ℕ

variable (L : grid0.Coords) (d : Dev nD) (defs : Defs nD τ sig (Elt F) Λ₀)

/-- Field 0: the rule its loop over the tile's rows meets. -/
theorem rule0 (w0 : BitVec 32) (w1 : BitVec 32) (w2 : BitVec 32) (w3 : BitVec 32) :
    DRule (F := F) L d defs 0 (by decide) (fun q ft => ((Memref.whole main_v1_scv : Memref sig .scVector .hbm S36x100000 .f32).view.loc (thr L d) ↦{q} ft)) cc0_scoped2 cc0_scoped3 cc0_scoped4 (k0_t1_loop L) (k0_t1_ok L)
      (Gen.k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 0 (by decide) (fun q ft => ((Memref.whole main_v1_scv : Memref sig .scVector .hbm S36x100000 .f32).view.loc (thr L d) ↦{q} ft)) cc0_scoped2 cc0_scoped3 cc0_scoped4 (k0_t1_loop L) (k0_t1_ok L) _
    (fun O W0 q ft fa fb G g0 k acc => Cert.Proof.BodyRow.rowsInv (F := F) ((L 0).castLE hcore0) ((L 1).castLE hsub0) d (Memref.whole main_v1_scv : Memref sig .scVector .hbm S36x100000 .f32)
      cc0_scoped2 cc0_scoped3 cc0_scoped4 ((mIa).view.loc (thr L d) ↦{fullShare} fa) ((mIb).view.loc (thr L d) ↦{fullShare} fb) O W0 q ft
      (rowsSet (Cert.Spec.lo (wid L)) (Cert.Spec.hi (wid L))) G g0 (36 * 0 + dlo (wid L) 0) k acc)
    (fun _ _ _ _ _ _ _ _ _ _ => rfl)
    (fun O W0 q fx ft fa fb G g0 hfx hidx hG => Cert.Proof.BodyRow.dinst_0 (F := F) L d defs w0 w1 w2 w3 O W0 q fx ft fa fb G g0 hfx hidx hG)

/-- Field 1: the rule its loop over the tile's rows meets. -/
theorem rule1 (w0 : BitVec 32) (w1 : BitVec 32) (w2 : BitVec 32) (w3 : BitVec 32) :
    DRule (F := F) L d defs 1 (by decide) (fun q ft => ((Memref.whole main_v2_scv : Memref sig .scVector .hbm S36x100000 .f32).view.loc (thr L d) ↦{q} ft)) cc0_scoped10 cc0_scoped11 cc0_scoped12 (k0_t7_loop L) (k0_t7_ok L)
      (Gen.k0_t7_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 1 (by decide) (fun q ft => ((Memref.whole main_v2_scv : Memref sig .scVector .hbm S36x100000 .f32).view.loc (thr L d) ↦{q} ft)) cc0_scoped10 cc0_scoped11 cc0_scoped12 (k0_t7_loop L) (k0_t7_ok L) _
    (fun O W0 q ft fa fb G g0 k acc => Cert.Proof.BodyRow.rowsInv (F := F) ((L 0).castLE hcore0) ((L 1).castLE hsub0) d (Memref.whole main_v2_scv : Memref sig .scVector .hbm S36x100000 .f32)
      cc0_scoped10 cc0_scoped11 cc0_scoped12 ((mIa).view.loc (thr L d) ↦{fullShare} fa) ((mIb).view.loc (thr L d) ↦{fullShare} fb) O W0 q ft
      (rowsSet (Cert.Spec.lo (wid L)) (Cert.Spec.hi (wid L))) G g0 (36 * 1 + dlo (wid L) 1) k acc)
    (fun _ _ _ _ _ _ _ _ _ _ => rfl)
    (fun O W0 q fx ft fa fb G g0 hfx hidx hG => Cert.Proof.BodyRow.dinst_1 (F := F) L d defs w0 w1 w2 w3 O W0 q fx ft fa fb G g0 hfx hidx hG)

/-- Field 2: the rule its loop over the tile's rows meets. -/
theorem rule2 (w0 : BitVec 32) (w1 : BitVec 32) (w2 : BitVec 32) (w3 : BitVec 32) (w4 : BitVec 32) :
    DRule (F := F) L d defs 2 (by decide) (fun q ft => ((Memref.whole main_v3_scv : Memref sig .scVector .hbm S36x100000 .f32).view.loc (thr L d) ↦{q} ft)) cc0_scoped18 cc0_scoped19 cc0_scoped20 (k0_t13_loop L) (k0_t13_ok L)
      (Gen.k0_t13_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 2 (by decide) (fun q ft => ((Memref.whole main_v3_scv : Memref sig .scVector .hbm S36x100000 .f32).view.loc (thr L d) ↦{q} ft)) cc0_scoped18 cc0_scoped19 cc0_scoped20 (k0_t13_loop L) (k0_t13_ok L) _
    (fun O W0 q ft fa fb G g0 k acc => Cert.Proof.BodyRow.rowsInv (F := F) ((L 0).castLE hcore0) ((L 1).castLE hsub0) d (Memref.whole main_v3_scv : Memref sig .scVector .hbm S36x100000 .f32)
      cc0_scoped18 cc0_scoped19 cc0_scoped20 ((mIa).view.loc (thr L d) ↦{fullShare} fa) ((mIb).view.loc (thr L d) ↦{fullShare} fb) O W0 q ft
      (rowsSet (Cert.Spec.lo (wid L)) (Cert.Spec.hi (wid L))) G g0 (36 * 2 + dlo (wid L) 2) k acc)
    (fun _ _ _ _ _ _ _ _ _ _ => rfl)
    (fun O W0 q fx ft fa fb G g0 hfx hidx hG => Cert.Proof.BodyRow.dinst_2 (F := F) L d defs w0 w1 w2 w3 w4 O W0 q fx ft fa fb G g0 hfx hidx hG)

/-- Field 3: the rule its loop over the tile's rows meets. -/
theorem rule3 (w0 : BitVec 32) (w1 : BitVec 32) (w2 : BitVec 32) (w3 : BitVec 32) (w4 : BitVec 32) :
    DRule (F := F) L d defs 3 (by decide) (fun q ft => ((Memref.whole main_v4_scv : Memref sig .scVector .hbm S36x100000 .f32).view.loc (thr L d) ↦{q} ft)) cc0_scoped26 cc0_scoped27 cc0_scoped28 (k0_t19_loop L) (k0_t19_ok L)
      (Gen.k0_t19_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 3 (by decide) (fun q ft => ((Memref.whole main_v4_scv : Memref sig .scVector .hbm S36x100000 .f32).view.loc (thr L d) ↦{q} ft)) cc0_scoped26 cc0_scoped27 cc0_scoped28 (k0_t19_loop L) (k0_t19_ok L) _
    (fun O W0 q ft fa fb G g0 k acc => Cert.Proof.BodyRow.rowsInv (F := F) ((L 0).castLE hcore0) ((L 1).castLE hsub0) d (Memref.whole main_v4_scv : Memref sig .scVector .hbm S36x100000 .f32)
      cc0_scoped26 cc0_scoped27 cc0_scoped28 ((mIa).view.loc (thr L d) ↦{fullShare} fa) ((mIb).view.loc (thr L d) ↦{fullShare} fb) O W0 q ft
      (rowsSet (Cert.Spec.lo (wid L)) (Cert.Spec.hi (wid L))) G g0 (36 * 3 + dlo (wid L) 3) k acc)
    (fun _ _ _ _ _ _ _ _ _ _ => rfl)
    (fun O W0 q fx ft fa fb G g0 hfx hidx hG => Cert.Proof.BodyRow.dinst_3 (F := F) L d defs w0 w1 w2 w3 w4 O W0 q fx ft fa fb G g0 hfx hidx hG)

/-- Field 4: the rule its loop over the tile's rows meets. -/
theorem rule4 (w0 : BitVec 32) (w1 : BitVec 32) (w2 : BitVec 32) (w3 : BitVec 32) (w4 : BitVec 32) :
    DRule (F := F) L d defs 4 (by decide) (fun q ft => ((Memref.whole main_v5_scv : Memref sig .scVector .hbm S36x100000 .f32).view.loc (thr L d) ↦{q} ft)) cc0_scoped34 cc0_scoped35 cc0_scoped36 (k0_t25_loop L) (k0_t25_ok L)
      (Gen.k0_t25_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 4 (by decide) (fun q ft => ((Memref.whole main_v5_scv : Memref sig .scVector .hbm S36x100000 .f32).view.loc (thr L d) ↦{q} ft)) cc0_scoped34 cc0_scoped35 cc0_scoped36 (k0_t25_loop L) (k0_t25_ok L) _
    (fun O W0 q ft fa fb G g0 k acc => Cert.Proof.BodyRow.rowsInv (F := F) ((L 0).castLE hcore0) ((L 1).castLE hsub0) d (Memref.whole main_v5_scv : Memref sig .scVector .hbm S36x100000 .f32)
      cc0_scoped34 cc0_scoped35 cc0_scoped36 ((mIa).view.loc (thr L d) ↦{fullShare} fa) ((mIb).view.loc (thr L d) ↦{fullShare} fb) O W0 q ft
      (rowsSet (Cert.Spec.lo (wid L)) (Cert.Spec.hi (wid L))) G g0 (36 * 4 + dlo (wid L) 4) k acc)
    (fun _ _ _ _ _ _ _ _ _ _ => rfl)
    (fun O W0 q fx ft fa fb G g0 hfx hidx hG => Cert.Proof.BodyRow.dinst_4 (F := F) L d defs w0 w1 w2 w3 w4 O W0 q fx ft fa fb G g0 hfx hidx hG)

/-- Field 5: the rule its loop over the tile's rows meets. -/
theorem rule5 (w0 : BitVec 32) (w1 : BitVec 32) (w2 : BitVec 32) (w3 : BitVec 32) (w4 : BitVec 32) (w5 : BitVec 32) :
    DRule (F := F) L d defs 5 (by decide) (fun q ft => ((Memref.whole main_v6_scv : Memref sig .scVector .hbm S36x100000 .f32).view.loc (thr L d) ↦{q} ft)) cc0_scoped42 cc0_scoped43 cc0_scoped44 (k0_t31_loop L) (k0_t31_ok L)
      (Gen.k0_t31_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 5 (by decide) (fun q ft => ((Memref.whole main_v6_scv : Memref sig .scVector .hbm S36x100000 .f32).view.loc (thr L d) ↦{q} ft)) cc0_scoped42 cc0_scoped43 cc0_scoped44 (k0_t31_loop L) (k0_t31_ok L) _
    (fun O W0 q ft fa fb G g0 k acc => Cert.Proof.BodyRow.rowsInv (F := F) ((L 0).castLE hcore0) ((L 1).castLE hsub0) d (Memref.whole main_v6_scv : Memref sig .scVector .hbm S36x100000 .f32)
      cc0_scoped42 cc0_scoped43 cc0_scoped44 ((mIa).view.loc (thr L d) ↦{fullShare} fa) ((mIb).view.loc (thr L d) ↦{fullShare} fb) O W0 q ft
      (rowsSet (Cert.Spec.lo (wid L)) (Cert.Spec.hi (wid L))) G g0 (36 * 5 + dlo (wid L) 5) k acc)
    (fun _ _ _ _ _ _ _ _ _ _ => rfl)
    (fun O W0 q fx ft fa fb G g0 hfx hidx hG => Cert.Proof.BodyRow.dinst_5 (F := F) L d defs w0 w1 w2 w3 w4 w5 O W0 q fx ft fa fb G g0 hfx hidx hG)

/-- Field 6: the rule its loop over the tile's rows meets. -/
theorem rule6 (w0 : BitVec 32) (w1 : BitVec 32) (w2 : BitVec 32) (w3 : BitVec 32) (w4 : BitVec 1) :
    DRule (F := F) L d defs 6 (by decide) (fun q ft => ((Memref.whole main_v7_scv : Memref sig .scVector .hbm S36x100000 .f32).view.loc (thr L d) ↦{q} ft)) cc0_scoped50 cc0_scoped51 cc0_scoped52 (k0_t37_loop L) (k0_t37_ok L)
      (Gen.k0_t37_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 6 (by decide) (fun q ft => ((Memref.whole main_v7_scv : Memref sig .scVector .hbm S36x100000 .f32).view.loc (thr L d) ↦{q} ft)) cc0_scoped50 cc0_scoped51 cc0_scoped52 (k0_t37_loop L) (k0_t37_ok L) _
    (fun O W0 q ft fa fb G g0 k acc => Cert.Proof.BodyRow.rowsInv (F := F) ((L 0).castLE hcore0) ((L 1).castLE hsub0) d (Memref.whole main_v7_scv : Memref sig .scVector .hbm S36x100000 .f32)
      cc0_scoped50 cc0_scoped51 cc0_scoped52 ((mIa).view.loc (thr L d) ↦{fullShare} fa) ((mIb).view.loc (thr L d) ↦{fullShare} fb) O W0 q ft
      (rowsSet (Cert.Spec.lo (wid L)) (Cert.Spec.hi (wid L))) G g0 (36 * 6 + dlo (wid L) 6) k acc)
    (fun _ _ _ _ _ _ _ _ _ _ => rfl)
    (fun O W0 q fx ft fa fb G g0 hfx hidx hG => Cert.Proof.BodyRow.dinst_6 (F := F) L d defs w0 w1 w2 w3 w4 O W0 q fx ft fa fb G g0 hfx hidx hG)

/-- Field 7: the rule its loop over the tile's rows meets. -/
theorem rule7 (w0 : BitVec 32) (w1 : BitVec 32) (w2 : BitVec 32) (w3 : BitVec 32) (w4 : BitVec 1) (w5 : BitVec 32) :
    DRule (F := F) L d defs 7 (by decide) (fun q ft => ((Memref.whole main_v8_scv : Memref sig .scVector .hbm S36x100000 .f32).view.loc (thr L d) ↦{q} ft)) cc0_scoped58 cc0_scoped59 cc0_scoped60 (k0_t43_loop L) (k0_t43_ok L)
      (Gen.k0_t43_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 7 (by decide) (fun q ft => ((Memref.whole main_v8_scv : Memref sig .scVector .hbm S36x100000 .f32).view.loc (thr L d) ↦{q} ft)) cc0_scoped58 cc0_scoped59 cc0_scoped60 (k0_t43_loop L) (k0_t43_ok L) _
    (fun O W0 q ft fa fb G g0 k acc => Cert.Proof.BodyRow.rowsInv (F := F) ((L 0).castLE hcore0) ((L 1).castLE hsub0) d (Memref.whole main_v8_scv : Memref sig .scVector .hbm S36x100000 .f32)
      cc0_scoped58 cc0_scoped59 cc0_scoped60 ((mIa).view.loc (thr L d) ↦{fullShare} fa) ((mIb).view.loc (thr L d) ↦{fullShare} fb) O W0 q ft
      (rowsSet (Cert.Spec.lo (wid L)) (Cert.Spec.hi (wid L))) G g0 (36 * 7 + dlo (wid L) 7) k acc)
    (fun _ _ _ _ _ _ _ _ _ _ => rfl)
    (fun O W0 q fx ft fa fb G g0 hfx hidx hG => Cert.Proof.BodyRow.dinst_7 (F := F) L d defs w0 w1 w2 w3 w4 w5 O W0 q fx ft fa fb G g0 hfx hidx hG)

/-- Field 8: the rule its loop over the tile's rows meets. -/
theorem rule8 (w0 : BitVec 32) (w1 : BitVec 32) (w2 : BitVec 32) (w3 : BitVec 32) :
    DRule (F := F) L d defs 8 (by decide) (fun q ft => ((Memref.whole main_v9_scv : Memref sig .scVector .hbm S36x100000 .f32).view.loc (thr L d) ↦{q} ft)) cc0_scoped66 cc0_scoped67 cc0_scoped68 (k0_t49_loop L) (k0_t49_ok L)
      (Gen.k0_t49_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 8 (by decide) (fun q ft => ((Memref.whole main_v9_scv : Memref sig .scVector .hbm S36x100000 .f32).view.loc (thr L d) ↦{q} ft)) cc0_scoped66 cc0_scoped67 cc0_scoped68 (k0_t49_loop L) (k0_t49_ok L) _
    (fun O W0 q ft fa fb G g0 k acc => Cert.Proof.BodyRow.rowsInv (F := F) ((L 0).castLE hcore0) ((L 1).castLE hsub0) d (Memref.whole main_v9_scv : Memref sig .scVector .hbm S36x100000 .f32)
      cc0_scoped66 cc0_scoped67 cc0_scoped68 ((mIa).view.loc (thr L d) ↦{fullShare} fa) ((mIb).view.loc (thr L d) ↦{fullShare} fb) O W0 q ft
      (rowsSet (Cert.Spec.lo (wid L)) (Cert.Spec.hi (wid L))) G g0 (36 * 8 + dlo (wid L) 8) k acc)
    (fun _ _ _ _ _ _ _ _ _ _ => rfl)
    (fun O W0 q fx ft fa fb G g0 hfx hidx hG => Cert.Proof.BodyRow.dinst_8 (F := F) L d defs w0 w1 w2 w3 O W0 q fx ft fa fb G g0 hfx hidx hG)

/-- Field 9: the rule its loop over the tile's rows meets. -/
theorem rule9 (w0 : BitVec 32) (w1 : BitVec 32) (w2 : BitVec 32) (w3 : BitVec 32) (w4 : BitVec 32) :
    DRule (F := F) L d defs 9 (by decide) (fun q ft => ((Memref.whole main_v10_scv : Memref sig .scVector .hbm S36x100000 .f32).view.loc (thr L d) ↦{q} ft)) cc0_scoped74 cc0_scoped75 cc0_scoped76 (k0_t55_loop L) (k0_t55_ok L)
      (Gen.k0_t55_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 9 (by decide) (fun q ft => ((Memref.whole main_v10_scv : Memref sig .scVector .hbm S36x100000 .f32).view.loc (thr L d) ↦{q} ft)) cc0_scoped74 cc0_scoped75 cc0_scoped76 (k0_t55_loop L) (k0_t55_ok L) _
    (fun O W0 q ft fa fb G g0 k acc => Cert.Proof.BodyRow.rowsInv (F := F) ((L 0).castLE hcore0) ((L 1).castLE hsub0) d (Memref.whole main_v10_scv : Memref sig .scVector .hbm S36x100000 .f32)
      cc0_scoped74 cc0_scoped75 cc0_scoped76 ((mIa).view.loc (thr L d) ↦{fullShare} fa) ((mIb).view.loc (thr L d) ↦{fullShare} fb) O W0 q ft
      (rowsSet (Cert.Spec.lo (wid L)) (Cert.Spec.hi (wid L))) G g0 (36 * 9 + dlo (wid L) 9) k acc)
    (fun _ _ _ _ _ _ _ _ _ _ => rfl)
    (fun O W0 q fx ft fa fb G g0 hfx hidx hG => Cert.Proof.BodyRow.dinst_9 (F := F) L d defs w0 w1 w2 w3 w4 O W0 q fx ft fa fb G g0 hfx hidx hG)

/-- Field 10: the rule its loop over the tile's rows meets. -/
theorem rule10 (w0 : BitVec 32) (w1 : BitVec 32) (w2 : BitVec 32) (w3 : BitVec 32) (w4 : BitVec 32) (w5 : BitVec 32) :
    DRule (F := F) L d defs 10 (by decide) (fun q ft => ((Memref.whole main_v11_scv : Memref sig .scVector .hbm S36x100000 .f32).view.loc (thr L d) ↦{q} ft)) cc0_scoped82 cc0_scoped83 cc0_scoped84 (k0_t61_loop L) (k0_t61_ok L)
      (Gen.k0_t61_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 10 (by decide) (fun q ft => ((Memref.whole main_v11_scv : Memref sig .scVector .hbm S36x100000 .f32).view.loc (thr L d) ↦{q} ft)) cc0_scoped82 cc0_scoped83 cc0_scoped84 (k0_t61_loop L) (k0_t61_ok L) _
    (fun O W0 q ft fa fb G g0 k acc => Cert.Proof.BodyRow.rowsInv (F := F) ((L 0).castLE hcore0) ((L 1).castLE hsub0) d (Memref.whole main_v11_scv : Memref sig .scVector .hbm S36x100000 .f32)
      cc0_scoped82 cc0_scoped83 cc0_scoped84 ((mIa).view.loc (thr L d) ↦{fullShare} fa) ((mIb).view.loc (thr L d) ↦{fullShare} fb) O W0 q ft
      (rowsSet (Cert.Spec.lo (wid L)) (Cert.Spec.hi (wid L))) G g0 (36 * 10 + dlo (wid L) 10) k acc)
    (fun _ _ _ _ _ _ _ _ _ _ => rfl)
    (fun O W0 q fx ft fa fb G g0 hfx hidx hG => Cert.Proof.BodyRow.dinst_10 (F := F) L d defs w0 w1 w2 w3 w4 w5 O W0 q fx ft fa fb G g0 hfx hidx hG)

/-- Field 11: the rule its loop over the tile's rows meets. -/
theorem rule11 (w0 : BitVec 32) (w1 : BitVec 32) (w2 : BitVec 32) (w3 : BitVec 32) (w4 : BitVec 32) (w5 : BitVec 32) (w6 : BitVec 32) :
    DRule (F := F) L d defs 11 (by decide) (fun q ft => ((Memref.whole main_v12_scv : Memref sig .scVector .hbm S36x100000 .f32).view.loc (thr L d) ↦{q} ft)) cc0_scoped90 cc0_scoped91 cc0_scoped92 (k0_t67_loop L) (k0_t67_ok L)
      (Gen.k0_t67_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6) :=
  drule_of_rows (F := F) L d defs 11 (by decide) (fun q ft => ((Memref.whole main_v12_scv : Memref sig .scVector .hbm S36x100000 .f32).view.loc (thr L d) ↦{q} ft)) cc0_scoped90 cc0_scoped91 cc0_scoped92 (k0_t67_loop L) (k0_t67_ok L) _
    (fun O W0 q ft fa fb G g0 k acc => Cert.Proof.BodyRow.rowsInv (F := F) ((L 0).castLE hcore0) ((L 1).castLE hsub0) d (Memref.whole main_v12_scv : Memref sig .scVector .hbm S36x100000 .f32)
      cc0_scoped90 cc0_scoped91 cc0_scoped92 ((mIa).view.loc (thr L d) ↦{fullShare} fa) ((mIb).view.loc (thr L d) ↦{fullShare} fb) O W0 q ft
      (rowsSet (Cert.Spec.lo (wid L)) (Cert.Spec.hi (wid L))) G g0 (36 * 11 + dlo (wid L) 11) k acc)
    (fun _ _ _ _ _ _ _ _ _ _ => rfl)
    (fun O W0 q fx ft fa fb G g0 hfx hidx hG => Cert.Proof.BodyRow.dinst_11 (F := F) L d defs w0 w1 w2 w3 w4 w5 w6 O W0 q fx ft fa fb G g0 hfx hidx hG)

/-- Field 12: the rule its loop over the tile's rows meets. -/
theorem rule12 (w0 : BitVec 32) (w1 : BitVec 32) (w2 : BitVec 32) (w3 : BitVec 32) (w4 : BitVec 32) (w5 : BitVec 32) :
    DRule (F := F) L d defs 12 (by decide) (fun q ft => ((Memref.whole main_v13_scv : Memref sig .scVector .hbm S36x100000 .f32).view.loc (thr L d) ↦{q} ft)) cc0_scoped98 cc0_scoped99 cc0_scoped100 (k0_t73_loop L) (k0_t73_ok L)
      (Gen.k0_t73_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 12 (by decide) (fun q ft => ((Memref.whole main_v13_scv : Memref sig .scVector .hbm S36x100000 .f32).view.loc (thr L d) ↦{q} ft)) cc0_scoped98 cc0_scoped99 cc0_scoped100 (k0_t73_loop L) (k0_t73_ok L) _
    (fun O W0 q ft fa fb G g0 k acc => Cert.Proof.BodyRow.rowsInv (F := F) ((L 0).castLE hcore0) ((L 1).castLE hsub0) d (Memref.whole main_v13_scv : Memref sig .scVector .hbm S36x100000 .f32)
      cc0_scoped98 cc0_scoped99 cc0_scoped100 ((mIa).view.loc (thr L d) ↦{fullShare} fa) ((mIb).view.loc (thr L d) ↦{fullShare} fb) O W0 q ft
      (rowsSet (Cert.Spec.lo (wid L)) (Cert.Spec.hi (wid L))) G g0 (36 * 12 + dlo (wid L) 12) k acc)
    (fun _ _ _ _ _ _ _ _ _ _ => rfl)
    (fun O W0 q fx ft fa fb G g0 hfx hidx hG => Cert.Proof.BodyRow.dinst_12 (F := F) L d defs w0 w1 w2 w3 w4 w5 O W0 q fx ft fa fb G g0 hfx hidx hG)

/-- Field 13: the rule its loop over the tile's rows meets. -/
theorem rule13 (w0 : BitVec 32) (w1 : BitVec 32) (w2 : BitVec 32) (w3 : BitVec 32) (w4 : BitVec 32) (w5 : BitVec 32) (w6 : BitVec 32) :
    DRule (F := F) L d defs 13 (by decide) (fun q ft => ((Memref.whole main_v14_scv : Memref sig .scVector .hbm S36x100000 .f32).view.loc (thr L d) ↦{q} ft)) cc0_scoped106 cc0_scoped107 cc0_scoped108 (k0_t79_loop L) (k0_t79_ok L)
      (Gen.k0_t79_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6) :=
  drule_of_rows (F := F) L d defs 13 (by decide) (fun q ft => ((Memref.whole main_v14_scv : Memref sig .scVector .hbm S36x100000 .f32).view.loc (thr L d) ↦{q} ft)) cc0_scoped106 cc0_scoped107 cc0_scoped108 (k0_t79_loop L) (k0_t79_ok L) _
    (fun O W0 q ft fa fb G g0 k acc => Cert.Proof.BodyRow.rowsInv (F := F) ((L 0).castLE hcore0) ((L 1).castLE hsub0) d (Memref.whole main_v14_scv : Memref sig .scVector .hbm S36x100000 .f32)
      cc0_scoped106 cc0_scoped107 cc0_scoped108 ((mIa).view.loc (thr L d) ↦{fullShare} fa) ((mIb).view.loc (thr L d) ↦{fullShare} fb) O W0 q ft
      (rowsSet (Cert.Spec.lo (wid L)) (Cert.Spec.hi (wid L))) G g0 (36 * 13 + dlo (wid L) 13) k acc)
    (fun _ _ _ _ _ _ _ _ _ _ => rfl)
    (fun O W0 q fx ft fa fb G g0 hfx hidx hG => Cert.Proof.BodyRow.dinst_13 (F := F) L d defs w0 w1 w2 w3 w4 w5 w6 O W0 q fx ft fa fb G g0 hfx hidx hG)

/-- Field 14: the rule its loop over the tile's rows meets. -/
theorem rule14 (w0 : BitVec 32) (w1 : BitVec 32) (w2 : BitVec 32) (w3 : BitVec 32) (w4 : BitVec 32) (w5 : BitVec 32) (w6 : BitVec 32) :
    DRule (F := F) L d defs 14 (by decide) (fun q ft => ((Memref.whole main_v15_scv : Memref sig .scVector .hbm S36x100000 .f32).view.loc (thr L d) ↦{q} ft)) cc0_scoped114 cc0_scoped115 cc0_scoped116 (k0_t85_loop L) (k0_t85_ok L)
      (Gen.k0_t85_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6) :=
  drule_of_rows (F := F) L d defs 14 (by decide) (fun q ft => ((Memref.whole main_v15_scv : Memref sig .scVector .hbm S36x100000 .f32).view.loc (thr L d) ↦{q} ft)) cc0_scoped114 cc0_scoped115 cc0_scoped116 (k0_t85_loop L) (k0_t85_ok L) _
    (fun O W0 q ft fa fb G g0 k acc => Cert.Proof.BodyRow.rowsInv (F := F) ((L 0).castLE hcore0) ((L 1).castLE hsub0) d (Memref.whole main_v15_scv : Memref sig .scVector .hbm S36x100000 .f32)
      cc0_scoped114 cc0_scoped115 cc0_scoped116 ((mIa).view.loc (thr L d) ↦{fullShare} fa) ((mIb).view.loc (thr L d) ↦{fullShare} fb) O W0 q ft
      (rowsSet (Cert.Spec.lo (wid L)) (Cert.Spec.hi (wid L))) G g0 (36 * 14 + dlo (wid L) 14) k acc)
    (fun _ _ _ _ _ _ _ _ _ _ => rfl)
    (fun O W0 q fx ft fa fb G g0 hfx hidx hG => Cert.Proof.BodyRow.dinst_14 (F := F) L d defs w0 w1 w2 w3 w4 w5 w6 O W0 q fx ft fa fb G g0 hfx hidx hG)

/-- Field 15: the rule its loop over the tile's rows meets. -/
theorem rule15 (w0 : BitVec 32) (w1 : BitVec 32) (w2 : BitVec 32) (w3 : BitVec 32) :
    DRule (F := F) L d defs 15 (by decide) (fun q ft => ((Memref.whole main_v16_scv : Memref sig .scVector .hbm S36x100000 .f32).view.loc (thr L d) ↦{q} ft)) cc0_scoped122 cc0_scoped123 cc0_scoped124 (k0_t91_loop L) (k0_t91_ok L)
      (Gen.k0_t91_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 15 (by decide) (fun q ft => ((Memref.whole main_v16_scv : Memref sig .scVector .hbm S36x100000 .f32).view.loc (thr L d) ↦{q} ft)) cc0_scoped122 cc0_scoped123 cc0_scoped124 (k0_t91_loop L) (k0_t91_ok L) _
    (fun O W0 q ft fa fb G g0 k acc => Cert.Proof.BodyRow.rowsInv (F := F) ((L 0).castLE hcore0) ((L 1).castLE hsub0) d (Memref.whole main_v16_scv : Memref sig .scVector .hbm S36x100000 .f32)
      cc0_scoped122 cc0_scoped123 cc0_scoped124 ((mIa).view.loc (thr L d) ↦{fullShare} fa) ((mIb).view.loc (thr L d) ↦{fullShare} fb) O W0 q ft
      (rowsSet (Cert.Spec.lo (wid L)) (Cert.Spec.hi (wid L))) G g0 (36 * 15 + dlo (wid L) 15) k acc)
    (fun _ _ _ _ _ _ _ _ _ _ => rfl)
    (fun O W0 q fx ft fa fb G g0 hfx hidx hG => Cert.Proof.BodyRow.dinst_15 (F := F) L d defs w0 w1 w2 w3 O W0 q fx ft fa fb G g0 hfx hidx hG)

/-- Field 16: the rule its loop over the tile's rows meets. -/
theorem rule16 (w0 : BitVec 32) (w1 : BitVec 32) (w2 : BitVec 32) (w3 : BitVec 32) :
    DRule (F := F) L d defs 16 (by decide) (fun q ft => ((Memref.whole main_v17_scv : Memref sig .scVector .hbm S36x100000 .f32).view.loc (thr L d) ↦{q} ft)) cc0_scoped130 cc0_scoped131 cc0_scoped132 (k0_t97_loop L) (k0_t97_ok L)
      (Gen.k0_t97_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 16 (by decide) (fun q ft => ((Memref.whole main_v17_scv : Memref sig .scVector .hbm S36x100000 .f32).view.loc (thr L d) ↦{q} ft)) cc0_scoped130 cc0_scoped131 cc0_scoped132 (k0_t97_loop L) (k0_t97_ok L) _
    (fun O W0 q ft fa fb G g0 k acc => Cert.Proof.BodyRow.rowsInv (F := F) ((L 0).castLE hcore0) ((L 1).castLE hsub0) d (Memref.whole main_v17_scv : Memref sig .scVector .hbm S36x100000 .f32)
      cc0_scoped130 cc0_scoped131 cc0_scoped132 ((mIa).view.loc (thr L d) ↦{fullShare} fa) ((mIb).view.loc (thr L d) ↦{fullShare} fb) O W0 q ft
      (rowsSet (Cert.Spec.lo (wid L)) (Cert.Spec.hi (wid L))) G g0 (36 * 16 + dlo (wid L) 16) k acc)
    (fun _ _ _ _ _ _ _ _ _ _ => rfl)
    (fun O W0 q fx ft fa fb G g0 hfx hidx hG => Cert.Proof.BodyRow.dinst_16 (F := F) L d defs w0 w1 w2 w3 O W0 q fx ft fa fb G g0 hfx hidx hG)

/-- Field 17: the rule its loop over the tile's rows meets. -/
theorem rule17 (w0 : BitVec 32) (w1 : BitVec 32) (w2 : BitVec 32) (w3 : BitVec 32) (w4 : BitVec 32) :
    DRule (F := F) L d defs 17 (by decide) (fun q ft => ((Memref.whole main_v18_scv : Memref sig .scVector .hbm S36x100000 .f32).view.loc (thr L d) ↦{q} ft)) cc0_scoped138 cc0_scoped139 cc0_scoped140 (k0_t103_loop L) (k0_t103_ok L)
      (Gen.k0_t103_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 17 (by decide) (fun q ft => ((Memref.whole main_v18_scv : Memref sig .scVector .hbm S36x100000 .f32).view.loc (thr L d) ↦{q} ft)) cc0_scoped138 cc0_scoped139 cc0_scoped140 (k0_t103_loop L) (k0_t103_ok L) _
    (fun O W0 q ft fa fb G g0 k acc => Cert.Proof.BodyRow.rowsInv (F := F) ((L 0).castLE hcore0) ((L 1).castLE hsub0) d (Memref.whole main_v18_scv : Memref sig .scVector .hbm S36x100000 .f32)
      cc0_scoped138 cc0_scoped139 cc0_scoped140 ((mIa).view.loc (thr L d) ↦{fullShare} fa) ((mIb).view.loc (thr L d) ↦{fullShare} fb) O W0 q ft
      (rowsSet (Cert.Spec.lo (wid L)) (Cert.Spec.hi (wid L))) G g0 (36 * 17 + dlo (wid L) 17) k acc)
    (fun _ _ _ _ _ _ _ _ _ _ => rfl)
    (fun O W0 q fx ft fa fb G g0 hfx hidx hG => Cert.Proof.BodyRow.dinst_17 (F := F) L d defs w0 w1 w2 w3 w4 O W0 q fx ft fa fb G g0 hfx hidx hG)

/-- Field 18: the rule its loop over the tile's rows meets. -/
theorem rule18 (w0 : BitVec 32) (w1 : BitVec 32) (w2 : BitVec 32) (w3 : BitVec 32) (w4 : BitVec 32) :
    DRule (F := F) L d defs 18 (by decide) (fun q ft => ((Memref.whole main_v19_scv : Memref sig .scVector .hbm S36x100000 .f32).view.loc (thr L d) ↦{q} ft)) cc0_scoped146 cc0_scoped147 cc0_scoped148 (k0_t109_loop L) (k0_t109_ok L)
      (Gen.k0_t109_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 18 (by decide) (fun q ft => ((Memref.whole main_v19_scv : Memref sig .scVector .hbm S36x100000 .f32).view.loc (thr L d) ↦{q} ft)) cc0_scoped146 cc0_scoped147 cc0_scoped148 (k0_t109_loop L) (k0_t109_ok L) _
    (fun O W0 q ft fa fb G g0 k acc => Cert.Proof.BodyRow.rowsInv (F := F) ((L 0).castLE hcore0) ((L 1).castLE hsub0) d (Memref.whole main_v19_scv : Memref sig .scVector .hbm S36x100000 .f32)
      cc0_scoped146 cc0_scoped147 cc0_scoped148 ((mIa).view.loc (thr L d) ↦{fullShare} fa) ((mIb).view.loc (thr L d) ↦{fullShare} fb) O W0 q ft
      (rowsSet (Cert.Spec.lo (wid L)) (Cert.Spec.hi (wid L))) G g0 (36 * 18 + dlo (wid L) 18) k acc)
    (fun _ _ _ _ _ _ _ _ _ _ => rfl)
    (fun O W0 q fx ft fa fb G g0 hfx hidx hG => Cert.Proof.BodyRow.dinst_18 (F := F) L d defs w0 w1 w2 w3 w4 O W0 q fx ft fa fb G g0 hfx hidx hG)

/-- Field 19: the rule its loop over the tile's rows meets. -/
theorem rule19 (w0 : BitVec 32) (w1 : BitVec 32) (w2 : BitVec 32) (w3 : BitVec 32) (w4 : BitVec 32) :
    DRule (F := F) L d defs 19 (by decide) (fun q ft => ((Memref.whole main_v20_scv : Memref sig .scVector .hbm S36x100000 .f32).view.loc (thr L d) ↦{q} ft)) cc0_scoped154 cc0_scoped155 cc0_scoped156 (k0_t115_loop L) (k0_t115_ok L)
      (Gen.k0_t115_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 19 (by decide) (fun q ft => ((Memref.whole main_v20_scv : Memref sig .scVector .hbm S36x100000 .f32).view.loc (thr L d) ↦{q} ft)) cc0_scoped154 cc0_scoped155 cc0_scoped156 (k0_t115_loop L) (k0_t115_ok L) _
    (fun O W0 q ft fa fb G g0 k acc => Cert.Proof.BodyRow.rowsInv (F := F) ((L 0).castLE hcore0) ((L 1).castLE hsub0) d (Memref.whole main_v20_scv : Memref sig .scVector .hbm S36x100000 .f32)
      cc0_scoped154 cc0_scoped155 cc0_scoped156 ((mIa).view.loc (thr L d) ↦{fullShare} fa) ((mIb).view.loc (thr L d) ↦{fullShare} fb) O W0 q ft
      (rowsSet (Cert.Spec.lo (wid L)) (Cert.Spec.hi (wid L))) G g0 (36 * 19 + dlo (wid L) 19) k acc)
    (fun _ _ _ _ _ _ _ _ _ _ => rfl)
    (fun O W0 q fx ft fa fb G g0 hfx hidx hG => Cert.Proof.BodyRow.dinst_19 (F := F) L d defs w0 w1 w2 w3 w4 O W0 q fx ft fa fb G g0 hfx hidx hG)

/-- Field 20: the rule its loop over the tile's rows meets. -/
theorem rule20 (w0 : BitVec 32) (w1 : BitVec 32) (w2 : BitVec 32) (w3 : BitVec 32) (w4 : BitVec 32) (w5 : BitVec 32) :
    DRule (F := F) L d defs 20 (by decide) (fun q ft => ((Memref.whole main_v21_scv : Memref sig .scVector .hbm S36x100000 .f32).view.loc (thr L d) ↦{q} ft)) cc0_scoped162 cc0_scoped163 cc0_scoped164 (k0_t121_loop L) (k0_t121_ok L)
      (Gen.k0_t121_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 20 (by decide) (fun q ft => ((Memref.whole main_v21_scv : Memref sig .scVector .hbm S36x100000 .f32).view.loc (thr L d) ↦{q} ft)) cc0_scoped162 cc0_scoped163 cc0_scoped164 (k0_t121_loop L) (k0_t121_ok L) _
    (fun O W0 q ft fa fb G g0 k acc => Cert.Proof.BodyRow.rowsInv (F := F) ((L 0).castLE hcore0) ((L 1).castLE hsub0) d (Memref.whole main_v21_scv : Memref sig .scVector .hbm S36x100000 .f32)
      cc0_scoped162 cc0_scoped163 cc0_scoped164 ((mIa).view.loc (thr L d) ↦{fullShare} fa) ((mIb).view.loc (thr L d) ↦{fullShare} fb) O W0 q ft
      (rowsSet (Cert.Spec.lo (wid L)) (Cert.Spec.hi (wid L))) G g0 (36 * 20 + dlo (wid L) 20) k acc)
    (fun _ _ _ _ _ _ _ _ _ _ => rfl)
    (fun O W0 q fx ft fa fb G g0 hfx hidx hG => Cert.Proof.BodyRow.dinst_20 (F := F) L d defs w0 w1 w2 w3 w4 w5 O W0 q fx ft fa fb G g0 hfx hidx hG)

/-- Field 21: the rule its loop over the tile's rows meets. -/
theorem rule21 (w0 : BitVec 32) (w1 : BitVec 32) (w2 : BitVec 32) (w3 : BitVec 32) (w4 : BitVec 1) :
    DRule (F := F) L d defs 21 (by decide) (fun q ft => ((Memref.whole main_v22_scv : Memref sig .scVector .hbm S36x100000 .f32).view.loc (thr L d) ↦{q} ft)) cc0_scoped170 cc0_scoped171 cc0_scoped172 (k0_t127_loop L) (k0_t127_ok L)
      (Gen.k0_t127_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 21 (by decide) (fun q ft => ((Memref.whole main_v22_scv : Memref sig .scVector .hbm S36x100000 .f32).view.loc (thr L d) ↦{q} ft)) cc0_scoped170 cc0_scoped171 cc0_scoped172 (k0_t127_loop L) (k0_t127_ok L) _
    (fun O W0 q ft fa fb G g0 k acc => Cert.Proof.BodyRow.rowsInv (F := F) ((L 0).castLE hcore0) ((L 1).castLE hsub0) d (Memref.whole main_v22_scv : Memref sig .scVector .hbm S36x100000 .f32)
      cc0_scoped170 cc0_scoped171 cc0_scoped172 ((mIa).view.loc (thr L d) ↦{fullShare} fa) ((mIb).view.loc (thr L d) ↦{fullShare} fb) O W0 q ft
      (rowsSet (Cert.Spec.lo (wid L)) (Cert.Spec.hi (wid L))) G g0 (36 * 21 + dlo (wid L) 21) k acc)
    (fun _ _ _ _ _ _ _ _ _ _ => rfl)
    (fun O W0 q fx ft fa fb G g0 hfx hidx hG => Cert.Proof.BodyRow.dinst_21 (F := F) L d defs w0 w1 w2 w3 w4 O W0 q fx ft fa fb G g0 hfx hidx hG)

/-- Field 22: the rule its loop over the tile's rows meets. -/
theorem rule22 (w0 : BitVec 32) (w1 : BitVec 32) (w2 : BitVec 32) (w3 : BitVec 32) (w4 : BitVec 1) (w5 : BitVec 32) :
    DRule (F := F) L d defs 22 (by decide) (fun q ft => ((Memref.whole main_v23_scv : Memref sig .scVector .hbm S36x100000 .f32).view.loc (thr L d) ↦{q} ft)) cc0_scoped178 cc0_scoped179 cc0_scoped180 (k0_t133_loop L) (k0_t133_ok L)
      (Gen.k0_t133_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 22 (by decide) (fun q ft => ((Memref.whole main_v23_scv : Memref sig .scVector .hbm S36x100000 .f32).view.loc (thr L d) ↦{q} ft)) cc0_scoped178 cc0_scoped179 cc0_scoped180 (k0_t133_loop L) (k0_t133_ok L) _
    (fun O W0 q ft fa fb G g0 k acc => Cert.Proof.BodyRow.rowsInv (F := F) ((L 0).castLE hcore0) ((L 1).castLE hsub0) d (Memref.whole main_v23_scv : Memref sig .scVector .hbm S36x100000 .f32)
      cc0_scoped178 cc0_scoped179 cc0_scoped180 ((mIa).view.loc (thr L d) ↦{fullShare} fa) ((mIb).view.loc (thr L d) ↦{fullShare} fb) O W0 q ft
      (rowsSet (Cert.Spec.lo (wid L)) (Cert.Spec.hi (wid L))) G g0 (36 * 22 + dlo (wid L) 22) k acc)
    (fun _ _ _ _ _ _ _ _ _ _ => rfl)
    (fun O W0 q fx ft fa fb G g0 hfx hidx hG => Cert.Proof.BodyRow.dinst_22 (F := F) L d defs w0 w1 w2 w3 w4 w5 O W0 q fx ft fa fb G g0 hfx hidx hG)

/-- Field 23: the rule its loop over the tile's rows meets. -/
theorem rule23 (w0 : BitVec 32) (w1 : BitVec 32) (w2 : BitVec 32) (w3 : BitVec 32) :
    DRule (F := F) L d defs 23 (by decide) (fun q ft => ((Memref.whole main_v24_scv : Memref sig .scVector .hbm S36x100000 .f32).view.loc (thr L d) ↦{q} ft)) cc0_scoped186 cc0_scoped187 cc0_scoped188 (k0_t139_loop L) (k0_t139_ok L)
      (Gen.k0_t139_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 23 (by decide) (fun q ft => ((Memref.whole main_v24_scv : Memref sig .scVector .hbm S36x100000 .f32).view.loc (thr L d) ↦{q} ft)) cc0_scoped186 cc0_scoped187 cc0_scoped188 (k0_t139_loop L) (k0_t139_ok L) _
    (fun O W0 q ft fa fb G g0 k acc => Cert.Proof.BodyRow.rowsInv (F := F) ((L 0).castLE hcore0) ((L 1).castLE hsub0) d (Memref.whole main_v24_scv : Memref sig .scVector .hbm S36x100000 .f32)
      cc0_scoped186 cc0_scoped187 cc0_scoped188 ((mIa).view.loc (thr L d) ↦{fullShare} fa) ((mIb).view.loc (thr L d) ↦{fullShare} fb) O W0 q ft
      (rowsSet (Cert.Spec.lo (wid L)) (Cert.Spec.hi (wid L))) G g0 (36 * 23 + dlo (wid L) 23) k acc)
    (fun _ _ _ _ _ _ _ _ _ _ => rfl)
    (fun O W0 q fx ft fa fb G g0 hfx hidx hG => Cert.Proof.BodyRow.dinst_23 (F := F) L d defs w0 w1 w2 w3 O W0 q fx ft fa fb G g0 hfx hidx hG)

/-- Field 24: the rule its loop over the tile's rows meets. -/
theorem rule24 (w0 : BitVec 32) (w1 : BitVec 32) (w2 : BitVec 32) (w3 : BitVec 32) (w4 : BitVec 32) :
    DRule (F := F) L d defs 24 (by decide) (fun q ft => ((Memref.whole main_v25_scv : Memref sig .scVector .hbm S36x100000 .f32).view.loc (thr L d) ↦{q} ft)) cc0_scoped194 cc0_scoped195 cc0_scoped196 (k0_t145_loop L) (k0_t145_ok L)
      (Gen.k0_t145_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 24 (by decide) (fun q ft => ((Memref.whole main_v25_scv : Memref sig .scVector .hbm S36x100000 .f32).view.loc (thr L d) ↦{q} ft)) cc0_scoped194 cc0_scoped195 cc0_scoped196 (k0_t145_loop L) (k0_t145_ok L) _
    (fun O W0 q ft fa fb G g0 k acc => Cert.Proof.BodyRow.rowsInv (F := F) ((L 0).castLE hcore0) ((L 1).castLE hsub0) d (Memref.whole main_v25_scv : Memref sig .scVector .hbm S36x100000 .f32)
      cc0_scoped194 cc0_scoped195 cc0_scoped196 ((mIa).view.loc (thr L d) ↦{fullShare} fa) ((mIb).view.loc (thr L d) ↦{fullShare} fb) O W0 q ft
      (rowsSet (Cert.Spec.lo (wid L)) (Cert.Spec.hi (wid L))) G g0 (36 * 24 + dlo (wid L) 24) k acc)
    (fun _ _ _ _ _ _ _ _ _ _ => rfl)
    (fun O W0 q fx ft fa fb G g0 hfx hidx hG => Cert.Proof.BodyRow.dinst_24 (F := F) L d defs w0 w1 w2 w3 w4 O W0 q fx ft fa fb G g0 hfx hidx hG)

/-- Field 25: the rule its loop over the tile's rows meets. -/
theorem rule25 (w0 : BitVec 32) :
    DRule (F := F) L d defs 25 (by decide) (fun q ft => ((Memref.whole main_v26_scv : Memref sig .scVector .hbm S36x100000 .f32).view.loc (thr L d) ↦{q} ft)) cc0_scoped202 cc0_scoped203 cc0_scoped204 (k0_t151_loop L) (k0_t151_ok L)
      (Gen.k0_t151_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0) :=
  drule_of_rows (F := F) L d defs 25 (by decide) (fun q ft => ((Memref.whole main_v26_scv : Memref sig .scVector .hbm S36x100000 .f32).view.loc (thr L d) ↦{q} ft)) cc0_scoped202 cc0_scoped203 cc0_scoped204 (k0_t151_loop L) (k0_t151_ok L) _
    (fun O W0 q ft fa fb G g0 k acc => Cert.Proof.BodyRow.rowsInv (F := F) ((L 0).castLE hcore0) ((L 1).castLE hsub0) d (Memref.whole main_v26_scv : Memref sig .scVector .hbm S36x100000 .f32)
      cc0_scoped202 cc0_scoped203 cc0_scoped204 ((mIa).view.loc (thr L d) ↦{fullShare} fa) ((mIb).view.loc (thr L d) ↦{fullShare} fb) O W0 q ft
      (rowsSet (Cert.Spec.lo (wid L)) (Cert.Spec.hi (wid L))) G g0 (36 * 25 + dlo (wid L) 25) k acc)
    (fun _ _ _ _ _ _ _ _ _ _ => rfl)
    (fun O W0 q fx ft fa fb G g0 hfx hidx hG => Cert.Proof.BodyRow.dinst_25 (F := F) L d defs w0 O W0 q fx ft fa fb G g0 hfx hidx hG)

/-- The 26 fields' loop rules, together. -/
theorem drules : DRules (F := F) L d defs where
  r0 := rule0 (F := F) L d defs
  r1 := rule1 (F := F) L d defs
  r2 := rule2 (F := F) L d defs
  r3 := rule3 (F := F) L d defs
  r4 := rule4 (F := F) L d defs
  r5 := rule5 (F := F) L d defs
  r6 := rule6 (F := F) L d defs
  r7 := rule7 (F := F) L d defs
  r8 := rule8 (F := F) L d defs
  r9 := rule9 (F := F) L d defs
  r10 := rule10 (F := F) L d defs
  r11 := rule11 (F := F) L d defs
  r12 := rule12 (F := F) L d defs
  r13 := rule13 (F := F) L d defs
  r14 := rule14 (F := F) L d defs
  r15 := rule15 (F := F) L d defs
  r16 := rule16 (F := F) L d defs
  r17 := rule17 (F := F) L d defs
  r18 := rule18 (F := F) L d defs
  r19 := rule19 (F := F) L d defs
  r20 := rule20 (F := F) L d defs
  r21 := rule21 (F := F) L d defs
  r22 := rule22 (F := F) L d defs
  r23 := rule23 (F := F) L d defs
  r24 := rule24 (F := F) L d defs
  r25 := rule25 (F := F) L d defs

end Cert.Proof.BodyRules
-- ==== Proof.BodyObl.lean ====
/-
  The launch theorem's obligation for a tile, closed.

  The tile's function, run field by field under the 26 fields' loop rules, gives the tile's flattened run; that gives the
  tile's run in the launch's folded form, and that gives the obligation.
-/
import proofs.«204037_g66941360275737_cont_sun_c4_657_24_alg».proof.Proof.BodyWrap
import proofs.«204037_g66941360275737_cont_sun_c4_657_24_alg».proof.Proof.BodyTop
import proofs.«204037_g66941360275737_cont_sun_c4_657_24_alg».proof.Proof.BodyRules

noncomputable section

namespace Cert.Proof.KernelIdeal

open Cert.KernelIdeal Cert.KernelIdeal.Gen
open Idealize.ShloMosaic

variable {F : FTy → Type} [FloatOps F]

/-- The obligation for a tile from the flattened run. -/
theorem tileObl_of_flat (m : (ℓ : Loc nD τ sig) → Buf (Elt F) ℓ) (hflat : FlatRun (F := F) m) :
    (K (F := F)).TileObl (D (F := F)) 𝒱 (P m) v₀ 0 :=
  tileObl_of_run m (tileRun_of_flat m facts hflat)

set_option maxHeartbeats 4000000 in
/-- The flattened run, from the tile's function under the fields' loop rules, at the launch's values. -/
theorem flatRun (m : (ℓ : Loc nD τ sig) → Buf (Elt F) ℓ) (hpre : PreOK m) : FlatRun (F := F) m := by
  intro d L O W p hp
  exact Cert.Proof.BodyTop.tile_run (F := F) L d (defs₀ (F := F)) (Cert.Proof.BodyRules.drules (F := F) L d (defs₀ (F := F))) O W _ _ _ _
    (fun y => xT_lt m hpre d y) p hp

/-- THE OBLIGATION FOR A TILE. -/
theorem tileObl (m : (ℓ : Loc nD τ sig) → Buf (Elt F) ℓ) (hpre : PreOK m) :
    (K (F := F)).TileObl (D (F := F)) 𝒱 (P m) v₀ 0 :=
  tileObl_of_flat m (flatRun m hpre)

end Cert.Proof.KernelIdeal

end
-- ==== Proof.BodyOblBaseBits.lean ====
/-
  From the tile's run to the launch theorem's obligation for a tile.

  The launch theorem asks, of every tile of the call, that the label table's row for a vector subcore, entered with
  the task's resources and the subcore's scoped storage, ends with the task's results. The row is the kernel's
  function applied at the tile's coordinates to the whole arrays and the subcore's scratch; so the obligation follows
  from a statement of that call's run in plain form, the handshake's empty extra share dropped on the way in and the
  recorded waits' clause weakened on the way out.
-/
import proofs.«204037_g66941360275737_cont_sun_c4_657_24_alg».proof.Proof.CommonBits

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The kernel's function at grid point `L`, on the whole arrays, the subcore's scratch and its scoped semaphores:
    what the body table's row for a vector subcore runs. -/
abbrev tileCall (L : grid0.Coords) : Prog (TpuEff nD τ sig (Elt F) Λ₀ (.scVector (cV L) (jV L))) PUnit :=
  cc0__encode L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207

theorem defs₀_vector (c : Fin τ.nSC) (s : Fin τ.nSub) :
    defs₀ (F := F) (.scVector c s) 0 ()
      = SparseCore.onTile hcore0 hsub0 (fun c s => tileCall (F := F) (coordsV c s)) ⟨⟩ c s := rfl

variable (m : (ℓ : Loc nD τ sig) → Buf (Elt F) ℓ)

/-- THE TILE'S RUN, in plain form: from the task's resources and the subcore's scoped storage the call ends with the
    task's results, the storage back, nothing new owed, and only local waits recorded; stated of any program equal
    to the call. -/
def TileRun : Prop :=
  ∀ (d : Dev nD) (L : grid0.Coords) (O : CellTallies nD τ sig (HIx 1)) (W : Waits sig (HIx 1)), (∀ g, O g none = 0) →
    ∀ (p : Prog (TpuEff nD τ sig (Elt F) Λ₀ (.scVector (cV L) (jV L))) PUnit), p = tileCall (F := F) L →
    (iprop(levAts (K (F := F)).L (K (F := F)).lev ∗ goT m d (L 0).val (L 1).val
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ p
          fun _ => iprop(tdT m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The handshake's extra share is empty here: it is dropped. -/
theorem obl_pre {A B C E G : sProp 𝕄} : iprop(A ∗ emp ∗ B ∗ C ∗ E ∗ G) ⊢ iprop(A ∗ B ∗ C ∗ E ∗ G) := by
  iintro ⟨HA, _, HB, HC, HE, HG⟩
  isplitl [HA]; · iexact HA
  isplitl [HB]; · iexact HB
  isplitl [HC]; · iexact HC
  isplitl [HE]; · iexact HE
  iexact HG

/-- THE OBLIGATION FOR A TILE, from the tile's run. -/
theorem tileObl_of_run (hrun : TileRun (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  generalize hp : tileCall (F := F) (coordsV ⟨((K (F := F)).core 0 c).val, hc.1⟩ ⟨((K (F := F)).sub 0 i).val, hc.2⟩) = p
  exact obl_pre.trans ((hrun d (coordsV ⟨((K (F := F)).core 0 c).val, hc.1⟩ ⟨((K (F := F)).sub 0 i).val, hc.2⟩) O W hO p hp.symm).trans
    (wp_mono frame _ _ fun _ => obl_post))

end Cert.Proof.Kernel

end
-- ==== Proof.BodyScopedBits.lean ====
import proofs.«204037_g66941360275737_cont_sun_c4_657_24_alg».proof.Kernel.P03
import Idealize.ShloMosaic.Lib.ValueIdx
import Idealize.ShloMosaic.Lib.SparseCore.Launch
import Idealize.ShloMosaic.Lib.Tactic

/-!
# A tile's scoped storage, by name

A tile's own buffers are its four scratch buffers (the row buffer, the two index buffers, the output buffer) and
the rest; its own semaphore cells are those whose semaphore is scoped to it.
-/

noncomputable section

namespace Cert.Proof.BodyScopedBits

open Cert.Kernel
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

variable (d : Dev nD) (c : Fin τ.nSC) (s : Fin τ.nSub)

/-- The tile's own buffers other than its four scratch buffers, each whole at some contents. -/
def restBufs : sProp 𝕄 :=
  bigSep (((((ownRefs (τ := τ) (sig := sig) (.scVector c s)).erase ((Proc.scVector c s).devRef cc0_scratch0)).erase
      ((Proc.scVector c s).devRef cc0_scratch1)).erase ((Proc.scVector c s).devRef cc0_scratch2)).erase ((Proc.scVector c s).devRef cc0_scratch3))
    fun b => iprop(∃ f, ((d, b) : Loc nD τ sig) ↦{fullShare} f)

omit [FloatOps F] in
/-- The four scratch buffers are among the tile's own: they are them, each at some contents, and the rest. -/
theorem ownBufs_scratch :
    (ownBufs (V d c s) : sProp 𝕄)
      = iprop(((∃ f, (V d c s).loc cc0_scratch0 ↦{fullShare} f) ∗ (∃ f, (V d c s).loc cc0_scratch1 ↦{fullShare} f)
          ∗ (∃ f, (V d c s).loc cc0_scratch2 ↦{fullShare} f) ∗ (∃ f, (V d c s).loc cc0_scratch3 ↦{fullShare} f)) ∗ restBufs (F := F) d c s) := by
  unfold SparseCore.Cfg.ownBufs restBufs
  refine (SparseCore.bigSep_erase' (SparseCore.Cfg.mem_ownRefs_of_owner (p := Proc.scVector c s)
    (b := (Proc.scVector c s).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector c s) (b := (Proc.scVector c s).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector c s) (b := (Proc.scVector c s).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector c s) (b := (Proc.scVector c s).devRef cc0_scratch3) rfl⟩⟩⟩)]
  have assoc : ∀ P Q R : sProp 𝕄, iprop((P ∗ Q) ∗ R) = iprop(P ∗ (Q ∗ R)) :=
    fun _ _ _ => Idealize.SL.BI.Entails.antisymm Idealize.SL.BI.sep_assoc Idealize.SL.BI.sep_assoc'
  simp only [assoc]

omit [FloatOps F] in
/-- A semaphore scoped to vector subcores is among the tile's own cells. -/
theorem sem_mem' (sm : SemLoc sig) (h : sm.isScoped .scVector = true) : ((V d c s, sm) : GSem nD τ sig) ∈ ownCells (V d c s) :=
  (mem_ownCells (g := ((V d c s, sm) : GSem nD τ sig))).mpr ⟨rfl, h⟩

omit [FloatOps F] in
/-- Cells of one thread at different semaphores are different. -/
theorem sem_ne' (a b : SemLoc sig) (h : a ≠ b) : ((V d c s, a) : GSem nD τ sig) ≠ (V d c s, b) :=
  fun e => h (Prod.mk.inj e).2

end Cert.Proof.BodyScopedBits
-- ==== Proof.BodyWrapBits.lean ====
/-
  From the tile's flattened run to the tile's run as the launch asks it.

  The flattened run takes the 27 read shares one by one, the four scratch buffers at some contents, the tile's rows of
  the output array, the tile's scoped semaphores at zero and evidence that its waits are allowed; it gives all of them
  back, the rows at the specification's values. The launch hands a tile the same things folded: the shares as a family
  over the input arrays, the scratch buffers inside the tile's scoped storage, the levels of the handshakes (from which
  the wait evidence follows). This file unfolds the one into the other, carries the rest of the scoped storage across
  the run, and reads the rows' values as the specification's function of the arrays the call starts from.
-/
import proofs.«204037_g66941360275737_cont_sun_c4_657_24_alg».proof.Proof.BodyOblBaseBits
import proofs.«204037_g66941360275737_cont_sun_c4_657_24_alg».proof.Proof.BodyScopedBits
import proofs.«204037_g66941360275737_cont_sun_c4_657_24_alg».proof.Proof.LaunchBits

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

set_option maxHeartbeats 4000000 in
/-- THE FLATTENED RUN of the tile at grid point `L` of device `d`, at the launch's values. -/
def FlatRun : Prop :=
  ∀ (d : Dev nD) (L : grid0.Coords) (O : CellTallies nD τ sig (HIx 1)) (W : Waits sig (HIx 1))
    (p : Prog (TpuEff nD τ sig (Elt F) Λ₀ (.scVector (cV L) (jV L))) PUnit), p = tileCall (F := F) L →
    (iprop(Transfers.MayWaits (V d (cV L) (jV L)) (none : HIx 1) O
        ∗ ((xV).view.loc (V d (cV L) (jV L)) ↦{qT (L 0).val (L 1).val} xT m d) ∗ (((Memref.whole main_v1_scv : Memref sig .scVector .hbm S36x100000 .f32)).view.loc (V d (cV L) (jV L)) ↦{qT (L 0).val (L 1).val} (tT m d ⟨0, by decide⟩)) ∗ (((Memref.whole main_v2_scv : Memref sig .scVector .hbm S36x100000 .f32)).view.loc (V d (cV L) (jV L)) ↦{qT (L 0).val (L 1).val} (tT m d ⟨1, by decide⟩)) ∗ (((Memref.whole main_v3_scv : Memref sig .scVector .hbm S36x100000 .f32)).view.loc (V d (cV L) (jV L)) ↦{qT (L 0).val (L 1).val} (tT m d ⟨2, by decide⟩)) ∗ (((Memref.whole main_v4_scv : Memref sig .scVector .hbm S36x100000 .f32)).view.loc (V d (cV L) (jV L)) ↦{qT (L 0).val (L 1).val} (tT m d ⟨3, by decide⟩)) ∗ (((Memref.whole main_v5_scv : Memref sig .scVector .hbm S36x100000 .f32)).view.loc (V d (cV L) (jV L)) ↦{qT (L 0).val (L 1).val} (tT m d ⟨4, by decide⟩)) ∗ (((Memref.whole main_v6_scv : Memref sig .scVector .hbm S36x100000 .f32)).view.loc (V d (cV L) (jV L)) ↦{qT (L 0).val (L 1).val} (tT m d ⟨5, by decide⟩)) ∗ (((Memref.whole main_v7_scv : Memref sig .scVector .hbm S36x100000 .f32)).view.loc (V d (cV L) (jV L)) ↦{qT (L 0).val (L 1).val} (tT m d ⟨6, by decide⟩)) ∗ (((Memref.whole main_v8_scv : Memref sig .scVector .hbm S36x100000 .f32)).view.loc (V d (cV L) (jV L)) ↦{qT (L 0).val (L 1).val} (tT m d ⟨7, by decide⟩)) ∗ (((Memref.whole main_v9_scv : Memref sig .scVector .hbm S36x100000 .f32)).view.loc (V d (cV L) (jV L)) ↦{qT (L 0).val (L 1).val} (tT m d ⟨8, by decide⟩)) ∗ (((Memref.whole main_v10_scv : Memref sig .scVector .hbm S36x100000 .f32)).view.loc (V d (cV L) (jV L)) ↦{qT (L 0).val (L 1).val} (tT m d ⟨9, by decide⟩)) ∗ (((Memref.whole main_v11_scv : Memref sig .scVector .hbm S36x100000 .f32)).view.loc (V d (cV L) (jV L)) ↦{qT (L 0).val (L 1).val} (tT m d ⟨10, by decide⟩)) ∗ (((Memref.whole main_v12_scv : Memref sig .scVector .hbm S36x100000 .f32)).view.loc (V d (cV L) (jV L)) ↦{qT (L 0).val (L 1).val} (tT m d ⟨11, by decide⟩)) ∗ (((Memref.whole main_v13_scv : Memref sig .scVector .hbm S36x100000 .f32)).view.loc (V d (cV L) (jV L)) ↦{qT (L 0).val (L 1).val} (tT m d ⟨12, by decide⟩)) ∗ (((Memref.whole main_v14_scv : Memref sig .scVector .hbm S36x100000 .f32)).view.loc (V d (cV L) (jV L)) ↦{qT (L 0).val (L 1).val} (tT m d ⟨13, by decide⟩)) ∗ (((Memref.whole main_v15_scv : Memref sig .scVector .hbm S36x100000 .f32)).view.loc (V d (cV L) (jV L)) ↦{qT (L 0).val (L 1).val} (tT m d ⟨14, by decide⟩)) ∗ (((Memref.whole main_v16_scv : Memref sig .scVector .hbm S36x100000 .f32)).view.loc (V d (cV L) (jV L)) ↦{qT (L 0).val (L 1).val} (tT m d ⟨15, by decide⟩)) ∗ (((Memref.whole main_v17_scv : Memref sig .scVector .hbm S36x100000 .f32)).view.loc (V d (cV L) (jV L)) ↦{qT (L 0).val (L 1).val} (tT m d ⟨16, by decide⟩)) ∗ (((Memref.whole main_v18_scv : Memref sig .scVector .hbm S36x100000 .f32)).view.loc (V d (cV L) (jV L)) ↦{qT (L 0).val (L 1).val} (tT m d ⟨17, by decide⟩)) ∗ (((Memref.whole main_v19_scv : Memref sig .scVector .hbm S36x100000 .f32)).view.loc (V d (cV L) (jV L)) ↦{qT (L 0).val (L 1).val} (tT m d ⟨18, by decide⟩)) ∗ (((Memref.whole main_v20_scv : Memref sig .scVector .hbm S36x100000 .f32)).view.loc (V d (cV L) (jV L)) ↦{qT (L 0).val (L 1).val} (tT m d ⟨19, by decide⟩)) ∗ (((Memref.whole main_v21_scv : Memref sig .scVector .hbm S36x100000 .f32)).view.loc (V d (cV L) (jV L)) ↦{qT (L 0).val (L 1).val} (tT m d ⟨20, by decide⟩)) ∗ (((Memref.whole main_v22_scv : Memref sig .scVector .hbm S36x100000 .f32)).view.loc (V d (cV L) (jV L)) ↦{qT (L 0).val (L 1).val} (tT m d ⟨21, by decide⟩)) ∗ (((Memref.whole main_v23_scv : Memref sig .scVector .hbm S36x100000 .f32)).view.loc (V d (cV L) (jV L)) ↦{qT (L 0).val (L 1).val} (tT m d ⟨22, by decide⟩)) ∗ (((Memref.whole main_v24_scv : Memref sig .scVector .hbm S36x100000 .f32)).view.loc (V d (cV L) (jV L)) ↦{qT (L 0).val (L 1).val} (tT m d ⟨23, by decide⟩)) ∗ (((Memref.whole main_v25_scv : Memref sig .scVector .hbm S36x100000 .f32)).view.loc (V d (cV L) (jV L)) ↦{qT (L 0).val (L 1).val} (tT m d ⟨24, by decide⟩)) ∗ (((Memref.whole main_v26_scv : Memref sig .scVector .hbm S36x100000 .f32)).view.loc (V d (cV L) (jV L)) ↦{qT (L 0).val (L 1).val} (tT m d ⟨25, by decide⟩))
        ∗ (∃ f, ((sRow).view.loc (V d (cV L) (jV L)) ↦{fullShare} f)) ∗ (∃ f, ((sOch).view.loc (V d (cV L) (jV L)) ↦{fullShare} f)) ∗ (∃ f, ((sIa).view.loc (V d (cV L) (jV L)) ↦{fullShare} f)) ∗ (∃ f, ((sIb).view.loc (V d (cV L) (jV L)) ↦{fullShare} f))
        ∗ ((oV).view.loc (V d (cV L) (jV L)) ↦[oRows (wid (L 0).val (L 1).val)]{fullShare} m (oLoc d))
        ∗ SparseCore.Cfg.ownSems0 (V d (cV L) (jV L))
        ∗ owes (V d (cV L) (jV L)) O W) : sProp 𝕄)
      ⊢ wp frame (wpE (defs₀ (F := F)) 𝒱₀ (V d (cV L) (jV L)) none) Set.univ p
          fun _ => iprop(Transfers.MayWaits (V d (cV L) (jV L)) (none : HIx 1) O
        ∗ ((xV).view.loc (V d (cV L) (jV L)) ↦{qT (L 0).val (L 1).val} xT m d) ∗ (((Memref.whole main_v1_scv : Memref sig .scVector .hbm S36x100000 .f32)).view.loc (V d (cV L) (jV L)) ↦{qT (L 0).val (L 1).val} (tT m d ⟨0, by decide⟩)) ∗ (((Memref.whole main_v2_scv : Memref sig .scVector .hbm S36x100000 .f32)).view.loc (V d (cV L) (jV L)) ↦{qT (L 0).val (L 1).val} (tT m d ⟨1, by decide⟩)) ∗ (((Memref.whole main_v3_scv : Memref sig .scVector .hbm S36x100000 .f32)).view.loc (V d (cV L) (jV L)) ↦{qT (L 0).val (L 1).val} (tT m d ⟨2, by decide⟩)) ∗ (((Memref.whole main_v4_scv : Memref sig .scVector .hbm S36x100000 .f32)).view.loc (V d (cV L) (jV L)) ↦{qT (L 0).val (L 1).val} (tT m d ⟨3, by decide⟩)) ∗ (((Memref.whole main_v5_scv : Memref sig .scVector .hbm S36x100000 .f32)).view.loc (V d (cV L) (jV L)) ↦{qT (L 0).val (L 1).val} (tT m d ⟨4, by decide⟩)) ∗ (((Memref.whole main_v6_scv : Memref sig .scVector .hbm S36x100000 .f32)).view.loc (V d (cV L) (jV L)) ↦{qT (L 0).val (L 1).val} (tT m d ⟨5, by decide⟩)) ∗ (((Memref.whole main_v7_scv : Memref sig .scVector .hbm S36x100000 .f32)).view.loc (V d (cV L) (jV L)) ↦{qT (L 0).val (L 1).val} (tT m d ⟨6, by decide⟩)) ∗ (((Memref.whole main_v8_scv : Memref sig .scVector .hbm S36x100000 .f32)).view.loc (V d (cV L) (jV L)) ↦{qT (L 0).val (L 1).val} (tT m d ⟨7, by decide⟩)) ∗ (((Memref.whole main_v9_scv : Memref sig .scVector .hbm S36x100000 .f32)).view.loc (V d (cV L) (jV L)) ↦{qT (L 0).val (L 1).val} (tT m d ⟨8, by decide⟩)) ∗ (((Memref.whole main_v10_scv : Memref sig .scVector .hbm S36x100000 .f32)).view.loc (V d (cV L) (jV L)) ↦{qT (L 0).val (L 1).val} (tT m d ⟨9, by decide⟩)) ∗ (((Memref.whole main_v11_scv : Memref sig .scVector .hbm S36x100000 .f32)).view.loc (V d (cV L) (jV L)) ↦{qT (L 0).val (L 1).val} (tT m d ⟨10, by decide⟩)) ∗ (((Memref.whole main_v12_scv : Memref sig .scVector .hbm S36x100000 .f32)).view.loc (V d (cV L) (jV L)) ↦{qT (L 0).val (L 1).val} (tT m d ⟨11, by decide⟩)) ∗ (((Memref.whole main_v13_scv : Memref sig .scVector .hbm S36x100000 .f32)).view.loc (V d (cV L) (jV L)) ↦{qT (L 0).val (L 1).val} (tT m d ⟨12, by decide⟩)) ∗ (((Memref.whole main_v14_scv : Memref sig .scVector .hbm S36x100000 .f32)).view.loc (V d (cV L) (jV L)) ↦{qT (L 0).val (L 1).val} (tT m d ⟨13, by decide⟩)) ∗ (((Memref.whole main_v15_scv : Memref sig .scVector .hbm S36x100000 .f32)).view.loc (V d (cV L) (jV L)) ↦{qT (L 0).val (L 1).val} (tT m d ⟨14, by decide⟩)) ∗ (((Memref.whole main_v16_scv : Memref sig .scVector .hbm S36x100000 .f32)).view.loc (V d (cV L) (jV L)) ↦{qT (L 0).val (L 1).val} (tT m d ⟨15, by decide⟩)) ∗ (((Memref.whole main_v17_scv : Memref sig .scVector .hbm S36x100000 .f32)).view.loc (V d (cV L) (jV L)) ↦{qT (L 0).val (L 1).val} (tT m d ⟨16, by decide⟩)) ∗ (((Memref.whole main_v18_scv : Memref sig .scVector .hbm S36x100000 .f32)).view.loc (V d (cV L) (jV L)) ↦{qT (L 0).val (L 1).val} (tT m d ⟨17, by decide⟩)) ∗ (((Memref.whole main_v19_scv : Memref sig .scVector .hbm S36x100000 .f32)).view.loc (V d (cV L) (jV L)) ↦{qT (L 0).val (L 1).val} (tT m d ⟨18, by decide⟩)) ∗ (((Memref.whole main_v20_scv : Memref sig .scVector .hbm S36x100000 .f32)).view.loc (V d (cV L) (jV L)) ↦{qT (L 0).val (L 1).val} (tT m d ⟨19, by decide⟩)) ∗ (((Memref.whole main_v21_scv : Memref sig .scVector .hbm S36x100000 .f32)).view.loc (V d (cV L) (jV L)) ↦{qT (L 0).val (L 1).val} (tT m d ⟨20, by decide⟩)) ∗ (((Memref.whole main_v22_scv : Memref sig .scVector .hbm S36x100000 .f32)).view.loc (V d (cV L) (jV L)) ↦{qT (L 0).val (L 1).val} (tT m d ⟨21, by decide⟩)) ∗ (((Memref.whole main_v23_scv : Memref sig .scVector .hbm S36x100000 .f32)).view.loc (V d (cV L) (jV L)) ↦{qT (L 0).val (L 1).val} (tT m d ⟨22, by decide⟩)) ∗ (((Memref.whole main_v24_scv : Memref sig .scVector .hbm S36x100000 .f32)).view.loc (V d (cV L) (jV L)) ↦{qT (L 0).val (L 1).val} (tT m d ⟨23, by decide⟩)) ∗ (((Memref.whole main_v25_scv : Memref sig .scVector .hbm S36x100000 .f32)).view.loc (V d (cV L) (jV L)) ↦{qT (L 0).val (L 1).val} (tT m d ⟨24, by decide⟩)) ∗ (((Memref.whole main_v26_scv : Memref sig .scVector .hbm S36x100000 .f32)).view.loc (V d (cV L) (jV L)) ↦{qT (L 0).val (L 1).val} (tT m d ⟨25, by decide⟩))
        ∗ (∃ f, ((sRow).view.loc (V d (cV L) (jV L)) ↦{fullShare} f)) ∗ (∃ f, ((sOch).view.loc (V d (cV L) (jV L)) ↦{fullShare} f)) ∗ (∃ f, ((sIa).view.loc (V d (cV L) (jV L)) ↦{fullShare} f)) ∗ (∃ f, ((sIb).view.loc (V d (cV L) (jV L)) ↦{fullShare} f))
        ∗ (∃ g, ((oV).view.loc (V d (cV L) (jV L)) ↦[oRows (wid (L 0).val (L 1).val)]{fullShare} g)
            ∗ ⌜∀ x ∈ oRows (wid (L 0).val (L 1).val), g x = Cert.Spec.outT (xT m d) (tT m d) x⌝)
        ∗ SparseCore.Cfg.ownSems0 (V d (cV L) (jV L))
        ∗ ∃ W', ⌜∀ p ∈ W', p ∈ W ∨ p.2 = none⌝ ∗ owes (V d (cV L) (jV L)) O W')

set_option maxHeartbeats 4000000 in
/-- THE TILE'S RUN from the flattened one. -/
theorem tileRun_of_flat (hF : (K (F := F)).Facts) (hflat : FlatRun (F := F) m) : TileRun (F := F) m := by
  intro d L O W hO p hp
  rw [(K (F := F)).scopedBufs_V hF d (cV L) (jV L), SparseCore.Cfg.scopedSems0_V (Val := Elt F) d (cV L) (jV L),
    Cert.Proof.BodyScopedBits.ownBufs_scratch (F := F) d (cV L) (jV L)]
  unfold goT tdT tabsAt
  rw [tabs_expand]
  have hmw : (levAts (K (F := F)).L (K (F := F)).lev : sProp 𝕄) ⊢ Transfers.MayWaits (V d (cV L) (jV L)) (none : HIx 1) O :=
    (K (F := F)).mayWaits_none hO
  have hrun := hflat d L O W p hp
  iintro ⟨Hlv, ⟨⟨Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26⟩, Ho⟩, ⟨⟨Hs0, Hs1, Hs2, Hs3⟩, Hrest⟩, Hsem, HO⟩
  ihave Hmw := hmw $$ Hlv
  iapply (wp_wand_r frame _ Set.univ)
  isplitr [Hrest]
  · iapply hrun
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hs0]; · iexact Hs0
    isplitl [Hs3]; · iexact Hs3
    isplitl [Hs1]; · iexact Hs1
    isplitl [Hs2]; · iexact Hs2
    isplitl [Ho]; · iexact Ho
    isplitl [Hsem]; · iexact Hsem
    iexact HO
  · iintro %u ⟨_, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Hs0, Hs3, Hs1, Hs2, ⟨%g, Ho, %hg⟩, Hsem, HW⟩
    isplitl [Hx Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ho]
    · isplitr [Ho]
      · isplitl [Hx]; · iexact Hx
        isplitl [Ht1]; · iexact Ht1
        isplitl [Ht2]; · iexact Ht2
        isplitl [Ht3]; · iexact Ht3
        isplitl [Ht4]; · iexact Ht4
        isplitl [Ht5]; · iexact Ht5
        isplitl [Ht6]; · iexact Ht6
        isplitl [Ht7]; · iexact Ht7
        isplitl [Ht8]; · iexact Ht8
        isplitl [Ht9]; · iexact Ht9
        isplitl [Ht10]; · iexact Ht10
        isplitl [Ht11]; · iexact Ht11
        isplitl [Ht12]; · iexact Ht12
        isplitl [Ht13]; · iexact Ht13
        isplitl [Ht14]; · iexact Ht14
        isplitl [Ht15]; · iexact Ht15
        isplitl [Ht16]; · iexact Ht16
        isplitl [Ht17]; · iexact Ht17
        isplitl [Ht18]; · iexact Ht18
        isplitl [Ht19]; · iexact Ht19
        isplitl [Ht20]; · iexact Ht20
        isplitl [Ht21]; · iexact Ht21
        isplitl [Ht22]; · iexact Ht22
        isplitl [Ht23]; · iexact Ht23
        isplitl [Ht24]; · iexact Ht24
        isplitl [Ht25]; · iexact Ht25
        iexact Ht26
      · have e : (oRowsPts d (wid (L 0).val (L 1).val) (outBuf m d) : sProp 𝕄)
            = (oLoc d ↦[oRows (wid (L 0).val (L 1).val)]{fullShare} g) := (pointsTo_congr hg).symm
        rw [e]
        iexact Ho
    isplitl [Hs0 Hs1 Hs2 Hs3 Hrest]
    · isplitr [Hrest]
      · isplitl [Hs0]; · iexact Hs0
        isplitl [Hs1]; · iexact Hs1
        isplitl [Hs2]; · iexact Hs2
        iexact Hs3
      · iexact Hrest
    isplitl [Hsem]; · iexact Hsem
    iexact HW

end Cert.Proof.Kernel

end
-- ==== Proof.BodyFetchBits.lean ====
import proofs.«204037_g66941360275737_cont_sun_c4_657_24_alg».proof.Kernel.P03
import Idealize.ShloMosaic.Lib.ValueIdx
import Idealize.ShloMosaic.Lib.SparseCore.Launch
import Idealize.ShloMosaic.Lib.Tactic

/-!
# What the fetch of an index half-row leaves

The transposed index array is 26 rows of 16384 words. A field's fetch copies the 8192 words of row `j` from column
`off` on into an index buffer: word `b` of the buffer is then the array's word at `(j, b + off)`.
-/

noncomputable section

namespace Cert.Proof.BodyFetchBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Shapes1.Facts₀

variable {F : FTy → Type} [FloatOps F] [Facts]

/-- Row `j`, columns `off … off + 8191`, of the array as a vector of 8192 words: its word `b` sits at `(j, b + off)`. -/
theorem emb_row (j : ℕ) (hj : j < 26) (off : ℕ) (hoff : off + 8192 ≤ 16384)
    (inb : ∀ a, (![j, off] : Fin 2 → ℕ) a + S1x8192.size a ≤ S26x16384.size a) (b : ℕ) (hb : b < 8192)
    (h : S8192.numel = S1x8192.numel) :
    (Rect.unit (s := S26x16384) ![j, off] S1x8192.size inb).emb (Shape.reshapeEquiv (s := S1x8192) (s' := S8192) h (ix1 ⟨b, hb⟩))
      = ix2 ⟨j, hj⟩ ⟨b + off, by omega⟩ := by
  have key : Shape.reshapeEquiv (s := S1x8192) (s' := S8192) h (ix1 ⟨b, hb⟩) = Fin.cons ⟨0, Nat.one_pos⟩ (ix1 ⟨b, hb⟩) :=
    Shape.reshapeEquiv_cons_one (n := 1) (d := ![8192]) h _
  rw [key]
  funext a
  apply Fin.ext
  rw [Rect.emb_apply]
  match a with
  | ⟨0, _⟩ => show j + 1 * 0 = j; omega
  | ⟨1, _⟩ => show off + 1 * b = b + off; omega

/-- Word `b` of what the copy of row `j`, columns `off … off + 8191`, moves is the array's word at `(j, b + off)`. -/
theorem fetch_read (j : ℕ) (hj : j < 26) (off : ℕ) (hoff : off + 8192 ≤ 16384)
    (inb : ∀ a, (![j, off] : Fin 2 → ℕ) a + S1x8192.size a ≤ S26x16384.size a)
    (fx : S26x16384.Idx → BitVec 32) (b : ℕ) (hb : b < 8192) :
    (ReadAs.same.apply (View.read (Elt F) (((Memref.whole main_v0_scv : Memref sig .scVector .hbm S26x16384 .i32).slice
        (Rect.unit (s := S26x16384) ![j, off] S1x8192.size inb) (fun _ => rfl)).squeeze S8192 squeezes_S1x8192_S8192).view fx)
      : S8192.Idx → Elt F .i32) (ix1 ⟨b, hb⟩) = fx (ix2 ⟨j, hj⟩ ⟨b + off, by omega⟩) := by
  show fx _ = fx _
  congr 1
  exact emb_row j hj off hoff inb b hb _

/-- Reading back, through the first index buffer held whole, what was written over all of it. -/
theorem read_write_whole1 (d : Dev nD) (c : Fin τ.nSC) (s : Fin τ.nSub)
    (fa : Buf (Elt F) ((Memref.whole cc0_scratch1 : Memref sig .scVector .vmem S8192 .i32).view.loc (V (nD := nD) (τ := τ) d c s)))
    (P : S8192.Idx → Elt F .i32) (y : S8192.Idx) :
    (Memref.whole cc0_scratch1 : Memref sig .scVector .vmem S8192 .i32).view.read (Elt F)
      (View.write (Elt F) (Memref.whole cc0_scratch1 : Memref sig .scVector .vmem S8192 .i32).view fa P Finset.univ) y = P y :=
  congrFun (View.read_write_univ (v := (Memref.whole cc0_scratch1 : Memref sig .scVector .vmem S8192 .i32).view) fa P) y

/-- The same for the second index buffer. -/
theorem read_write_whole2 (d : Dev nD) (c : Fin τ.nSC) (s : Fin τ.nSub)
    (fa : Buf (Elt F) ((Memref.whole cc0_scratch2 : Memref sig .scVector .vmem S8192 .i32).view.loc (V (nD := nD) (τ := τ) d c s)))
    (P : S8192.Idx → Elt F .i32) (y : S8192.Idx) :
    (Memref.whole cc0_scratch2 : Memref sig .scVector .vmem S8192 .i32).view.read (Elt F)
      (View.write (Elt F) (Memref.whole cc0_scratch2 : Memref sig .scVector .vmem S8192 .i32).view fa P Finset.univ) y = P y :=
  congrFun (View.read_write_univ (v := (Memref.whole cc0_scratch2 : Memref sig .scVector .vmem S8192 .i32).view) fa P) y

end Cert.Proof.BodyFetchBits
-- ==== Proof.UnitArithKBits.lean ====
/-
  The tile's unit range in the printed program's own names.

  Each field's two loops over its components, and the three offset functions of its main loop, are the printed chains
  of word operations; by unfolding they are the functions of words stated once in the pure arithmetic of the unit range,
  at the tile's two coordinates and the field's literal 36 j. Their closed forms follow: the main loop of field j
  has dhi - dlo trips, the remainder loop none, and at trip t the main loop reads row dlo + t of the field's table and
  writes the two halves of output row 36 j + dlo + t.
-/
import proofs.«204037_g66941360275737_cont_sun_c4_657_24_alg».proof.Kernel
import proofs.«204037_g66941360275737_cont_sun_c4_657_24_alg».proof.Proof.UnitArith

namespace Cert.Kernel.UnitArithK

open Idealize.ShloMosaic Cert.UnitArith

/-- The tile's number: twice the subcore plus the core. -/
def wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

/-- The two coordinates as the program reads them. -/
abbrev cW (i : grid0.Coords) : BitVec 32 := BitVec.ofNat 32 (i 0).val
abbrev sW (i : grid0.Coords) : BitVec 32 := BitVec.ofNat 32 (i 1).val

theorem loW_wid (i : grid0.Coords) : loW (cW i) (sW i) = BitVec.ofNat 32 (Cert.Spec.lo (wid i)) :=
  loW_eq (i 0).val (i 1).val (i 0).isLt (i 1).isLt
theorem hiW_wid (i : grid0.Coords) : hiW (cW i) (sW i) = BitVec.ofNat 32 (Cert.Spec.hi (wid i)) :=
  hiW_eq (i 0).val (i 1).val (i 0).isLt (i 1).isLt

/-! ### Field 0 -/

theorem t1_loop_eq (i : grid0.Coords) : k0_t1_loop i = mainLoop (clipW (loW (cW i) (sW i)) 0#32) (clipW (hiW (cW i) (sW i)) 0#32) := rfl
theorem t4_loop_eq (i : grid0.Coords) : k0_t4_loop i = remLoop (clipW (loW (cW i) (sW i)) 0#32) (clipW (hiW (cW i) (sW i)) 0#32) := rfl
theorem t1_trips (i : grid0.Coords) : (k0_t1_loop i).trips = dhi (wid i) 0 - dlo (wid i) 0 := by
  rw [t1_loop_eq]; exact field_main_trips (i 0).val (i 1).val 0 (i 0).isLt (i 1).isLt (by omega)
theorem t4_trips (i : grid0.Coords) : (k0_t4_loop i).trips = 0 := by
  rw [t4_loop_eq]; exact field_rem_trips (i 0).val (i 1).val 0 (i 0).isLt (i 1).isLt (by omega)
theorem t1_le (i : grid0.Coords) (t : Fin (k0_t1_loop i).trips) : t.val ≤ 36 := by
  have h1 := Nat.lt_of_lt_of_eq t.isLt (t1_trips i)
  have h2 := dhi_le (wid i) 0
  omega
theorem off1_eq (i : grid0.Coords) (t : Fin (k0_t1_loop i).trips) : k0_off1 i t = ![dlo (wid i) 0 + t.val, 0] := by
  show ![(Scf.iv (clipW (loW (cW i) (sW i)) 0#32) 1#32 t.val).toNat, 0] = _
  rw [field_iv_toNat (i 0).val (i 1).val 0 (i 0).isLt (i 1).isLt (by omega) t.val (t1_le i t)]; rfl
theorem off19_eq (i : grid0.Coords) (t : Fin (k0_t1_loop i).trips) : k0_off19 i t = ![0 + dlo (wid i) 0 + t.val, 0] := by
  show ![(Scalar.addi 0#32 (Scf.iv (clipW (loW (cW i) (sW i)) 0#32) 1#32 t.val)).toNat, 0] = _
  rw [field_unit_toNat (i 0).val (i 1).val 0 (i 0).isLt (i 1).isLt (by omega) t.val (t1_le i t)]; rfl
theorem off37_eq (i : grid0.Coords) (t : Fin (k0_t1_loop i).trips) : k0_off37 i t = ![0 + dlo (wid i) 0 + t.val, 8192] := by
  show ![(Scalar.addi 0#32 (Scf.iv (clipW (loW (cW i) (sW i)) 0#32) 1#32 t.val)).toNat, 8192] = _
  rw [field_unit_toNat (i 0).val (i 1).val 0 (i 0).isLt (i 1).isLt (by omega) t.val (t1_le i t)]; rfl

/-! ### Field 1 -/

theorem t7_loop_eq (i : grid0.Coords) : k0_t7_loop i = mainLoop (clipW (loW (cW i) (sW i)) 36#32) (clipW (hiW (cW i) (sW i)) 36#32) := rfl
theorem t10_loop_eq (i : grid0.Coords) : k0_t10_loop i = remLoop (clipW (loW (cW i) (sW i)) 36#32) (clipW (hiW (cW i) (sW i)) 36#32) := rfl
theorem t7_trips (i : grid0.Coords) : (k0_t7_loop i).trips = dhi (wid i) 1 - dlo (wid i) 1 := by
  rw [t7_loop_eq]; exact field_main_trips (i 0).val (i 1).val 1 (i 0).isLt (i 1).isLt (by omega)
theorem t10_trips (i : grid0.Coords) : (k0_t10_loop i).trips = 0 := by
  rw [t10_loop_eq]; exact field_rem_trips (i 0).val (i 1).val 1 (i 0).isLt (i 1).isLt (by omega)
theorem t7_le (i : grid0.Coords) (t : Fin (k0_t7_loop i).trips) : t.val ≤ 36 := by
  have h1 := Nat.lt_of_lt_of_eq t.isLt (t7_trips i)
  have h2 := dhi_le (wid i) 1
  omega
theorem off75_eq (i : grid0.Coords) (t : Fin (k0_t7_loop i).trips) : k0_off75 i t = ![dlo (wid i) 1 + t.val, 0] := by
  show ![(Scf.iv (clipW (loW (cW i) (sW i)) 36#32) 1#32 t.val).toNat, 0] = _
  rw [field_iv_toNat (i 0).val (i 1).val 1 (i 0).isLt (i 1).isLt (by omega) t.val (t7_le i t)]; rfl
theorem off93_eq (i : grid0.Coords) (t : Fin (k0_t7_loop i).trips) : k0_off93 i t = ![36 + dlo (wid i) 1 + t.val, 0] := by
  show ![(Scalar.addi 36#32 (Scf.iv (clipW (loW (cW i) (sW i)) 36#32) 1#32 t.val)).toNat, 0] = _
  rw [field_unit_toNat (i 0).val (i 1).val 1 (i 0).isLt (i 1).isLt (by omega) t.val (t7_le i t)]; rfl
theorem off111_eq (i : grid0.Coords) (t : Fin (k0_t7_loop i).trips) : k0_off111 i t = ![36 + dlo (wid i) 1 + t.val, 8192] := by
  show ![(Scalar.addi 36#32 (Scf.iv (clipW (loW (cW i) (sW i)) 36#32) 1#32 t.val)).toNat, 8192] = _
  rw [field_unit_toNat (i 0).val (i 1).val 1 (i 0).isLt (i 1).isLt (by omega) t.val (t7_le i t)]; rfl

/-! ### Field 2 -/

theorem t13_loop_eq (i : grid0.Coords) : k0_t13_loop i = mainLoop (clipW (loW (cW i) (sW i)) 72#32) (clipW (hiW (cW i) (sW i)) 72#32) := rfl
theorem t16_loop_eq (i : grid0.Coords) : k0_t16_loop i = remLoop (clipW (loW (cW i) (sW i)) 72#32) (clipW (hiW (cW i) (sW i)) 72#32) := rfl
theorem t13_trips (i : grid0.Coords) : (k0_t13_loop i).trips = dhi (wid i) 2 - dlo (wid i) 2 := by
  rw [t13_loop_eq]; exact field_main_trips (i 0).val (i 1).val 2 (i 0).isLt (i 1).isLt (by omega)
theorem t16_trips (i : grid0.Coords) : (k0_t16_loop i).trips = 0 := by
  rw [t16_loop_eq]; exact field_rem_trips (i 0).val (i 1).val 2 (i 0).isLt (i 1).isLt (by omega)
theorem t13_le (i : grid0.Coords) (t : Fin (k0_t13_loop i).trips) : t.val ≤ 36 := by
  have h1 := Nat.lt_of_lt_of_eq t.isLt (t13_trips i)
  have h2 := dhi_le (wid i) 2
  omega
theorem off149_eq (i : grid0.Coords) (t : Fin (k0_t13_loop i).trips) : k0_off149 i t = ![dlo (wid i) 2 + t.val, 0] := by
  show ![(Scf.iv (clipW (loW (cW i) (sW i)) 72#32) 1#32 t.val).toNat, 0] = _
  rw [field_iv_toNat (i 0).val (i 1).val 2 (i 0).isLt (i 1).isLt (by omega) t.val (t13_le i t)]; rfl
theorem off167_eq (i : grid0.Coords) (t : Fin (k0_t13_loop i).trips) : k0_off167 i t = ![72 + dlo (wid i) 2 + t.val, 0] := by
  show ![(Scalar.addi 72#32 (Scf.iv (clipW (loW (cW i) (sW i)) 72#32) 1#32 t.val)).toNat, 0] = _
  rw [field_unit_toNat (i 0).val (i 1).val 2 (i 0).isLt (i 1).isLt (by omega) t.val (t13_le i t)]; rfl
theorem off185_eq (i : grid0.Coords) (t : Fin (k0_t13_loop i).trips) : k0_off185 i t = ![72 + dlo (wid i) 2 + t.val, 8192] := by
  show ![(Scalar.addi 72#32 (Scf.iv (clipW (loW (cW i) (sW i)) 72#32) 1#32 t.val)).toNat, 8192] = _
  rw [field_unit_toNat (i 0).val (i 1).val 2 (i 0).isLt (i 1).isLt (by omega) t.val (t13_le i t)]; rfl

/-! ### Field 3 -/

theorem t19_loop_eq (i : grid0.Coords) : k0_t19_loop i = mainLoop (clipW (loW (cW i) (sW i)) 108#32) (clipW (hiW (cW i) (sW i)) 108#32) := rfl
theorem t22_loop_eq (i : grid0.Coords) : k0_t22_loop i = remLoop (clipW (loW (cW i) (sW i)) 108#32) (clipW (hiW (cW i) (sW i)) 108#32) := rfl
theorem t19_trips (i : grid0.Coords) : (k0_t19_loop i).trips = dhi (wid i) 3 - dlo (wid i) 3 := by
  rw [t19_loop_eq]; exact field_main_trips (i 0).val (i 1).val 3 (i 0).isLt (i 1).isLt (by omega)
theorem t22_trips (i : grid0.Coords) : (k0_t22_loop i).trips = 0 := by
  rw [t22_loop_eq]; exact field_rem_trips (i 0).val (i 1).val 3 (i 0).isLt (i 1).isLt (by omega)
theorem t19_le (i : grid0.Coords) (t : Fin (k0_t19_loop i).trips) : t.val ≤ 36 := by
  have h1 := Nat.lt_of_lt_of_eq t.isLt (t19_trips i)
  have h2 := dhi_le (wid i) 3
  omega
theorem off223_eq (i : grid0.Coords) (t : Fin (k0_t19_loop i).trips) : k0_off223 i t = ![dlo (wid i) 3 + t.val, 0] := by
  show ![(Scf.iv (clipW (loW (cW i) (sW i)) 108#32) 1#32 t.val).toNat, 0] = _
  rw [field_iv_toNat (i 0).val (i 1).val 3 (i 0).isLt (i 1).isLt (by omega) t.val (t19_le i t)]; rfl
theorem off241_eq (i : grid0.Coords) (t : Fin (k0_t19_loop i).trips) : k0_off241 i t = ![108 + dlo (wid i) 3 + t.val, 0] := by
  show ![(Scalar.addi 108#32 (Scf.iv (clipW (loW (cW i) (sW i)) 108#32) 1#32 t.val)).toNat, 0] = _
  rw [field_unit_toNat (i 0).val (i 1).val 3 (i 0).isLt (i 1).isLt (by omega) t.val (t19_le i t)]; rfl
theorem off259_eq (i : grid0.Coords) (t : Fin (k0_t19_loop i).trips) : k0_off259 i t = ![108 + dlo (wid i) 3 + t.val, 8192] := by
  show ![(Scalar.addi 108#32 (Scf.iv (clipW (loW (cW i) (sW i)) 108#32) 1#32 t.val)).toNat, 8192] = _
  rw [field_unit_toNat (i 0).val (i 1).val 3 (i 0).isLt (i 1).isLt (by omega) t.val (t19_le i t)]; rfl

/-! ### Field 4 -/

theorem t25_loop_eq (i : grid0.Coords) : k0_t25_loop i = mainLoop (clipW (loW (cW i) (sW i)) 144#32) (clipW (hiW (cW i) (sW i)) 144#32) := rfl
theorem t28_loop_eq (i : grid0.Coords) : k0_t28_loop i = remLoop (clipW (loW (cW i) (sW i)) 144#32) (clipW (hiW (cW i) (sW i)) 144#32) := rfl
theorem t25_trips (i : grid0.Coords) : (k0_t25_loop i).trips = dhi (wid i) 4 - dlo (wid i) 4 := by
  rw [t25_loop_eq]; exact field_main_trips (i 0).val (i 1).val 4 (i 0).isLt (i 1).isLt (by omega)
theorem t28_trips (i : grid0.Coords) : (k0_t28_loop i).trips = 0 := by
  rw [t28_loop_eq]; exact field_rem_trips (i 0).val (i 1).val 4 (i 0).isLt (i 1).isLt (by omega)
theorem t25_le (i : grid0.Coords) (t : Fin (k0_t25_loop i).trips) : t.val ≤ 36 := by
  have h1 := Nat.lt_of_lt_of_eq t.isLt (t25_trips i)
  have h2 := dhi_le (wid i) 4
  omega
theorem off297_eq (i : grid0.Coords) (t : Fin (k0_t25_loop i).trips) : k0_off297 i t = ![dlo (wid i) 4 + t.val, 0] := by
  show ![(Scf.iv (clipW (loW (cW i) (sW i)) 144#32) 1#32 t.val).toNat, 0] = _
  rw [field_iv_toNat (i 0).val (i 1).val 4 (i 0).isLt (i 1).isLt (by omega) t.val (t25_le i t)]; rfl
theorem off315_eq (i : grid0.Coords) (t : Fin (k0_t25_loop i).trips) : k0_off315 i t = ![144 + dlo (wid i) 4 + t.val, 0] := by
  show ![(Scalar.addi 144#32 (Scf.iv (clipW (loW (cW i) (sW i)) 144#32) 1#32 t.val)).toNat, 0] = _
  rw [field_unit_toNat (i 0).val (i 1).val 4 (i 0).isLt (i 1).isLt (by omega) t.val (t25_le i t)]; rfl
theorem off333_eq (i : grid0.Coords) (t : Fin (k0_t25_loop i).trips) : k0_off333 i t = ![144 + dlo (wid i) 4 + t.val, 8192] := by
  show ![(Scalar.addi 144#32 (Scf.iv (clipW (loW (cW i) (sW i)) 144#32) 1#32 t.val)).toNat, 8192] = _
  rw [field_unit_toNat (i 0).val (i 1).val 4 (i 0).isLt (i 1).isLt (by omega) t.val (t25_le i t)]; rfl

/-! ### Field 5 -/

theorem t31_loop_eq (i : grid0.Coords) : k0_t31_loop i = mainLoop (clipW (loW (cW i) (sW i)) 180#32) (clipW (hiW (cW i) (sW i)) 180#32) := rfl
theorem t34_loop_eq (i : grid0.Coords) : k0_t34_loop i = remLoop (clipW (loW (cW i) (sW i)) 180#32) (clipW (hiW (cW i) (sW i)) 180#32) := rfl
theorem t31_trips (i : grid0.Coords) : (k0_t31_loop i).trips = dhi (wid i) 5 - dlo (wid i) 5 := by
  rw [t31_loop_eq]; exact field_main_trips (i 0).val (i 1).val 5 (i 0).isLt (i 1).isLt (by omega)
theorem t34_trips (i : grid0.Coords) : (k0_t34_loop i).trips = 0 := by
  rw [t34_loop_eq]; exact field_rem_trips (i 0).val (i 1).val 5 (i 0).isLt (i 1).isLt (by omega)
theorem t31_le (i : grid0.Coords) (t : Fin (k0_t31_loop i).trips) : t.val ≤ 36 := by
  have h1 := Nat.lt_of_lt_of_eq t.isLt (t31_trips i)
  have h2 := dhi_le (wid i) 5
  omega
theorem off371_eq (i : grid0.Coords) (t : Fin (k0_t31_loop i).trips) : k0_off371 i t = ![dlo (wid i) 5 + t.val, 0] := by
  show ![(Scf.iv (clipW (loW (cW i) (sW i)) 180#32) 1#32 t.val).toNat, 0] = _
  rw [field_iv_toNat (i 0).val (i 1).val 5 (i 0).isLt (i 1).isLt (by omega) t.val (t31_le i t)]; rfl
theorem off389_eq (i : grid0.Coords) (t : Fin (k0_t31_loop i).trips) : k0_off389 i t = ![180 + dlo (wid i) 5 + t.val, 0] := by
  show ![(Scalar.addi 180#32 (Scf.iv (clipW (loW (cW i) (sW i)) 180#32) 1#32 t.val)).toNat, 0] = _
  rw [field_unit_toNat (i 0).val (i 1).val 5 (i 0).isLt (i 1).isLt (by omega) t.val (t31_le i t)]; rfl
theorem off407_eq (i : grid0.Coords) (t : Fin (k0_t31_loop i).trips) : k0_off407 i t = ![180 + dlo (wid i) 5 + t.val, 8192] := by
  show ![(Scalar.addi 180#32 (Scf.iv (clipW (loW (cW i) (sW i)) 180#32) 1#32 t.val)).toNat, 8192] = _
  rw [field_unit_toNat (i 0).val (i 1).val 5 (i 0).isLt (i 1).isLt (by omega) t.val (t31_le i t)]; rfl

/-! ### Field 6 -/

theorem t37_loop_eq (i : grid0.Coords) : k0_t37_loop i = mainLoop (clipW (loW (cW i) (sW i)) 216#32) (clipW (hiW (cW i) (sW i)) 216#32) := rfl
theorem t40_loop_eq (i : grid0.Coords) : k0_t40_loop i = remLoop (clipW (loW (cW i) (sW i)) 216#32) (clipW (hiW (cW i) (sW i)) 216#32) := rfl
theorem t37_trips (i : grid0.Coords) : (k0_t37_loop i).trips = dhi (wid i) 6 - dlo (wid i) 6 := by
  rw [t37_loop_eq]; exact field_main_trips (i 0).val (i 1).val 6 (i 0).isLt (i 1).isLt (by omega)
theorem t40_trips (i : grid0.Coords) : (k0_t40_loop i).trips = 0 := by
  rw [t40_loop_eq]; exact field_rem_trips (i 0).val (i 1).val 6 (i 0).isLt (i 1).isLt (by omega)
theorem t37_le (i : grid0.Coords) (t : Fin (k0_t37_loop i).trips) : t.val ≤ 36 := by
  have h1 := Nat.lt_of_lt_of_eq t.isLt (t37_trips i)
  have h2 := dhi_le (wid i) 6
  omega
theorem off445_eq (i : grid0.Coords) (t : Fin (k0_t37_loop i).trips) : k0_off445 i t = ![dlo (wid i) 6 + t.val, 0] := by
  show ![(Scf.iv (clipW (loW (cW i) (sW i)) 216#32) 1#32 t.val).toNat, 0] = _
  rw [field_iv_toNat (i 0).val (i 1).val 6 (i 0).isLt (i 1).isLt (by omega) t.val (t37_le i t)]; rfl
theorem off463_eq (i : grid0.Coords) (t : Fin (k0_t37_loop i).trips) : k0_off463 i t = ![216 + dlo (wid i) 6 + t.val, 0] := by
  show ![(Scalar.addi 216#32 (Scf.iv (clipW (loW (cW i) (sW i)) 216#32) 1#32 t.val)).toNat, 0] = _
  rw [field_unit_toNat (i 0).val (i 1).val 6 (i 0).isLt (i 1).isLt (by omega) t.val (t37_le i t)]; rfl
theorem off481_eq (i : grid0.Coords) (t : Fin (k0_t37_loop i).trips) : k0_off481 i t = ![216 + dlo (wid i) 6 + t.val, 8192] := by
  show ![(Scalar.addi 216#32 (Scf.iv (clipW (loW (cW i) (sW i)) 216#32) 1#32 t.val)).toNat, 8192] = _
  rw [field_unit_toNat (i 0).val (i 1).val 6 (i 0).isLt (i 1).isLt (by omega) t.val (t37_le i t)]; rfl

/-! ### Field 7 -/

theorem t43_loop_eq (i : grid0.Coords) : k0_t43_loop i = mainLoop (clipW (loW (cW i) (sW i)) 252#32) (clipW (hiW (cW i) (sW i)) 252#32) := rfl
theorem t46_loop_eq (i : grid0.Coords) : k0_t46_loop i = remLoop (clipW (loW (cW i) (sW i)) 252#32) (clipW (hiW (cW i) (sW i)) 252#32) := rfl
theorem t43_trips (i : grid0.Coords) : (k0_t43_loop i).trips = dhi (wid i) 7 - dlo (wid i) 7 := by
  rw [t43_loop_eq]; exact field_main_trips (i 0).val (i 1).val 7 (i 0).isLt (i 1).isLt (by omega)
theorem t46_trips (i : grid0.Coords) : (k0_t46_loop i).trips = 0 := by
  rw [t46_loop_eq]; exact field_rem_trips (i 0).val (i 1).val 7 (i 0).isLt (i 1).isLt (by omega)
theorem t43_le (i : grid0.Coords) (t : Fin (k0_t43_loop i).trips) : t.val ≤ 36 := by
  have h1 := Nat.lt_of_lt_of_eq t.isLt (t43_trips i)
  have h2 := dhi_le (wid i) 7
  omega
theorem off519_eq (i : grid0.Coords) (t : Fin (k0_t43_loop i).trips) : k0_off519 i t = ![dlo (wid i) 7 + t.val, 0] := by
  show ![(Scf.iv (clipW (loW (cW i) (sW i)) 252#32) 1#32 t.val).toNat, 0] = _
  rw [field_iv_toNat (i 0).val (i 1).val 7 (i 0).isLt (i 1).isLt (by omega) t.val (t43_le i t)]; rfl
theorem off537_eq (i : grid0.Coords) (t : Fin (k0_t43_loop i).trips) : k0_off537 i t = ![252 + dlo (wid i) 7 + t.val, 0] := by
  show ![(Scalar.addi 252#32 (Scf.iv (clipW (loW (cW i) (sW i)) 252#32) 1#32 t.val)).toNat, 0] = _
  rw [field_unit_toNat (i 0).val (i 1).val 7 (i 0).isLt (i 1).isLt (by omega) t.val (t43_le i t)]; rfl
theorem off555_eq (i : grid0.Coords) (t : Fin (k0_t43_loop i).trips) : k0_off555 i t = ![252 + dlo (wid i) 7 + t.val, 8192] := by
  show ![(Scalar.addi 252#32 (Scf.iv (clipW (loW (cW i) (sW i)) 252#32) 1#32 t.val)).toNat, 8192] = _
  rw [field_unit_toNat (i 0).val (i 1).val 7 (i 0).isLt (i 1).isLt (by omega) t.val (t43_le i t)]; rfl

/-! ### Field 8 -/

theorem t49_loop_eq (i : grid0.Coords) : k0_t49_loop i = mainLoop (clipW (loW (cW i) (sW i)) 288#32) (clipW (hiW (cW i) (sW i)) 288#32) := rfl
theorem t52_loop_eq (i : grid0.Coords) : k0_t52_loop i = remLoop (clipW (loW (cW i) (sW i)) 288#32) (clipW (hiW (cW i) (sW i)) 288#32) := rfl
theorem t49_trips (i : grid0.Coords) : (k0_t49_loop i).trips = dhi (wid i) 8 - dlo (wid i) 8 := by
  rw [t49_loop_eq]; exact field_main_trips (i 0).val (i 1).val 8 (i 0).isLt (i 1).isLt (by omega)
theorem t52_trips (i : grid0.Coords) : (k0_t52_loop i).trips = 0 := by
  rw [t52_loop_eq]; exact field_rem_trips (i 0).val (i 1).val 8 (i 0).isLt (i 1).isLt (by omega)
theorem t49_le (i : grid0.Coords) (t : Fin (k0_t49_loop i).trips) : t.val ≤ 36 := by
  have h1 := Nat.lt_of_lt_of_eq t.isLt (t49_trips i)
  have h2 := dhi_le (wid i) 8
  omega
theorem off593_eq (i : grid0.Coords) (t : Fin (k0_t49_loop i).trips) : k0_off593 i t = ![dlo (wid i) 8 + t.val, 0] := by
  show ![(Scf.iv (clipW (loW (cW i) (sW i)) 288#32) 1#32 t.val).toNat, 0] = _
  rw [field_iv_toNat (i 0).val (i 1).val 8 (i 0).isLt (i 1).isLt (by omega) t.val (t49_le i t)]; rfl
theorem off611_eq (i : grid0.Coords) (t : Fin (k0_t49_loop i).trips) : k0_off611 i t = ![288 + dlo (wid i) 8 + t.val, 0] := by
  show ![(Scalar.addi 288#32 (Scf.iv (clipW (loW (cW i) (sW i)) 288#32) 1#32 t.val)).toNat, 0] = _
  rw [field_unit_toNat (i 0).val (i 1).val 8 (i 0).isLt (i 1).isLt (by omega) t.val (t49_le i t)]; rfl
theorem off629_eq (i : grid0.Coords) (t : Fin (k0_t49_loop i).trips) : k0_off629 i t = ![288 + dlo (wid i) 8 + t.val, 8192] := by
  show ![(Scalar.addi 288#32 (Scf.iv (clipW (loW (cW i) (sW i)) 288#32) 1#32 t.val)).toNat, 8192] = _
  rw [field_unit_toNat (i 0).val (i 1).val 8 (i 0).isLt (i 1).isLt (by omega) t.val (t49_le i t)]; rfl

/-! ### Field 9 -/

theorem t55_loop_eq (i : grid0.Coords) : k0_t55_loop i = mainLoop (clipW (loW (cW i) (sW i)) 324#32) (clipW (hiW (cW i) (sW i)) 324#32) := rfl
theorem t58_loop_eq (i : grid0.Coords) : k0_t58_loop i = remLoop (clipW (loW (cW i) (sW i)) 324#32) (clipW (hiW (cW i) (sW i)) 324#32) := rfl
theorem t55_trips (i : grid0.Coords) : (k0_t55_loop i).trips = dhi (wid i) 9 - dlo (wid i) 9 := by
  rw [t55_loop_eq]; exact field_main_trips (i 0).val (i 1).val 9 (i 0).isLt (i 1).isLt (by omega)
theorem t58_trips (i : grid0.Coords) : (k0_t58_loop i).trips = 0 := by
  rw [t58_loop_eq]; exact field_rem_trips (i 0).val (i 1).val 9 (i 0).isLt (i 1).isLt (by omega)
theorem t55_le (i : grid0.Coords) (t : Fin (k0_t55_loop i).trips) : t.val ≤ 36 := by
  have h1 := Nat.lt_of_lt_of_eq t.isLt (t55_trips i)
  have h2 := dhi_le (wid i) 9
  omega
theorem off667_eq (i : grid0.Coords) (t : Fin (k0_t55_loop i).trips) : k0_off667 i t = ![dlo (wid i) 9 + t.val, 0] := by
  show ![(Scf.iv (clipW (loW (cW i) (sW i)) 324#32) 1#32 t.val).toNat, 0] = _
  rw [field_iv_toNat (i 0).val (i 1).val 9 (i 0).isLt (i 1).isLt (by omega) t.val (t55_le i t)]; rfl
theorem off685_eq (i : grid0.Coords) (t : Fin (k0_t55_loop i).trips) : k0_off685 i t = ![324 + dlo (wid i) 9 + t.val, 0] := by
  show ![(Scalar.addi 324#32 (Scf.iv (clipW (loW (cW i) (sW i)) 324#32) 1#32 t.val)).toNat, 0] = _
  rw [field_unit_toNat (i 0).val (i 1).val 9 (i 0).isLt (i 1).isLt (by omega) t.val (t55_le i t)]; rfl
theorem off703_eq (i : grid0.Coords) (t : Fin (k0_t55_loop i).trips) : k0_off703 i t = ![324 + dlo (wid i) 9 + t.val, 8192] := by
  show ![(Scalar.addi 324#32 (Scf.iv (clipW (loW (cW i) (sW i)) 324#32) 1#32 t.val)).toNat, 8192] = _
  rw [field_unit_toNat (i 0).val (i 1).val 9 (i 0).isLt (i 1).isLt (by omega) t.val (t55_le i t)]; rfl

/-! ### Field 10 -/

theorem t61_loop_eq (i : grid0.Coords) : k0_t61_loop i = mainLoop (clipW (loW (cW i) (sW i)) 360#32) (clipW (hiW (cW i) (sW i)) 360#32) := rfl
theorem t64_loop_eq (i : grid0.Coords) : k0_t64_loop i = remLoop (clipW (loW (cW i) (sW i)) 360#32) (clipW (hiW (cW i) (sW i)) 360#32) := rfl
theorem t61_trips (i : grid0.Coords) : (k0_t61_loop i).trips = dhi (wid i) 10 - dlo (wid i) 10 := by
  rw [t61_loop_eq]; exact field_main_trips (i 0).val (i 1).val 10 (i 0).isLt (i 1).isLt (by omega)
theorem t64_trips (i : grid0.Coords) : (k0_t64_loop i).trips = 0 := by
  rw [t64_loop_eq]; exact field_rem_trips (i 0).val (i 1).val 10 (i 0).isLt (i 1).isLt (by omega)
theorem t61_le (i : grid0.Coords) (t : Fin (k0_t61_loop i).trips) : t.val ≤ 36 := by
  have h1 := Nat.lt_of_lt_of_eq t.isLt (t61_trips i)
  have h2 := dhi_le (wid i) 10
  omega
theorem off741_eq (i : grid0.Coords) (t : Fin (k0_t61_loop i).trips) : k0_off741 i t = ![dlo (wid i) 10 + t.val, 0] := by
  show ![(Scf.iv (clipW (loW (cW i) (sW i)) 360#32) 1#32 t.val).toNat, 0] = _
  rw [field_iv_toNat (i 0).val (i 1).val 10 (i 0).isLt (i 1).isLt (by omega) t.val (t61_le i t)]; rfl
theorem off759_eq (i : grid0.Coords) (t : Fin (k0_t61_loop i).trips) : k0_off759 i t = ![360 + dlo (wid i) 10 + t.val, 0] := by
  show ![(Scalar.addi 360#32 (Scf.iv (clipW (loW (cW i) (sW i)) 360#32) 1#32 t.val)).toNat, 0] = _
  rw [field_unit_toNat (i 0).val (i 1).val 10 (i 0).isLt (i 1).isLt (by omega) t.val (t61_le i t)]; rfl
theorem off777_eq (i : grid0.Coords) (t : Fin (k0_t61_loop i).trips) : k0_off777 i t = ![360 + dlo (wid i) 10 + t.val, 8192] := by
  show ![(Scalar.addi 360#32 (Scf.iv (clipW (loW (cW i) (sW i)) 360#32) 1#32 t.val)).toNat, 8192] = _
  rw [field_unit_toNat (i 0).val (i 1).val 10 (i 0).isLt (i 1).isLt (by omega) t.val (t61_le i t)]; rfl

/-! ### Field 11 -/

theorem t67_loop_eq (i : grid0.Coords) : k0_t67_loop i = mainLoop (clipW (loW (cW i) (sW i)) 396#32) (clipW (hiW (cW i) (sW i)) 396#32) := rfl
theorem t70_loop_eq (i : grid0.Coords) : k0_t70_loop i = remLoop (clipW (loW (cW i) (sW i)) 396#32) (clipW (hiW (cW i) (sW i)) 396#32) := rfl
theorem t67_trips (i : grid0.Coords) : (k0_t67_loop i).trips = dhi (wid i) 11 - dlo (wid i) 11 := by
  rw [t67_loop_eq]; exact field_main_trips (i 0).val (i 1).val 11 (i 0).isLt (i 1).isLt (by omega)
theorem t70_trips (i : grid0.Coords) : (k0_t70_loop i).trips = 0 := by
  rw [t70_loop_eq]; exact field_rem_trips (i 0).val (i 1).val 11 (i 0).isLt (i 1).isLt (by omega)
theorem t67_le (i : grid0.Coords) (t : Fin (k0_t67_loop i).trips) : t.val ≤ 36 := by
  have h1 := Nat.lt_of_lt_of_eq t.isLt (t67_trips i)
  have h2 := dhi_le (wid i) 11
  omega
theorem off815_eq (i : grid0.Coords) (t : Fin (k0_t67_loop i).trips) : k0_off815 i t = ![dlo (wid i) 11 + t.val, 0] := by
  show ![(Scf.iv (clipW (loW (cW i) (sW i)) 396#32) 1#32 t.val).toNat, 0] = _
  rw [field_iv_toNat (i 0).val (i 1).val 11 (i 0).isLt (i 1).isLt (by omega) t.val (t67_le i t)]; rfl
theorem off833_eq (i : grid0.Coords) (t : Fin (k0_t67_loop i).trips) : k0_off833 i t = ![396 + dlo (wid i) 11 + t.val, 0] := by
  show ![(Scalar.addi 396#32 (Scf.iv (clipW (loW (cW i) (sW i)) 396#32) 1#32 t.val)).toNat, 0] = _
  rw [field_unit_toNat (i 0).val (i 1).val 11 (i 0).isLt (i 1).isLt (by omega) t.val (t67_le i t)]; rfl
theorem off851_eq (i : grid0.Coords) (t : Fin (k0_t67_loop i).trips) : k0_off851 i t = ![396 + dlo (wid i) 11 + t.val, 8192] := by
  show ![(Scalar.addi 396#32 (Scf.iv (clipW (loW (cW i) (sW i)) 396#32) 1#32 t.val)).toNat, 8192] = _
  rw [field_unit_toNat (i 0).val (i 1).val 11 (i 0).isLt (i 1).isLt (by omega) t.val (t67_le i t)]; rfl

/-! ### Field 12 -/

theorem t73_loop_eq (i : grid0.Coords) : k0_t73_loop i = mainLoop (clipW (loW (cW i) (sW i)) 432#32) (clipW (hiW (cW i) (sW i)) 432#32) := rfl
theorem t76_loop_eq (i : grid0.Coords) : k0_t76_loop i = remLoop (clipW (loW (cW i) (sW i)) 432#32) (clipW (hiW (cW i) (sW i)) 432#32) := rfl
theorem t73_trips (i : grid0.Coords) : (k0_t73_loop i).trips = dhi (wid i) 12 - dlo (wid i) 12 := by
  rw [t73_loop_eq]; exact field_main_trips (i 0).val (i 1).val 12 (i 0).isLt (i 1).isLt (by omega)
theorem t76_trips (i : grid0.Coords) : (k0_t76_loop i).trips = 0 := by
  rw [t76_loop_eq]; exact field_rem_trips (i 0).val (i 1).val 12 (i 0).isLt (i 1).isLt (by omega)
theorem t73_le (i : grid0.Coords) (t : Fin (k0_t73_loop i).trips) : t.val ≤ 36 := by
  have h1 := Nat.lt_of_lt_of_eq t.isLt (t73_trips i)
  have h2 := dhi_le (wid i) 12
  omega
theorem off889_eq (i : grid0.Coords) (t : Fin (k0_t73_loop i).trips) : k0_off889 i t = ![dlo (wid i) 12 + t.val, 0] := by
  show ![(Scf.iv (clipW (loW (cW i) (sW i)) 432#32) 1#32 t.val).toNat, 0] = _
  rw [field_iv_toNat (i 0).val (i 1).val 12 (i 0).isLt (i 1).isLt (by omega) t.val (t73_le i t)]; rfl
theorem off907_eq (i : grid0.Coords) (t : Fin (k0_t73_loop i).trips) : k0_off907 i t = ![432 + dlo (wid i) 12 + t.val, 0] := by
  show ![(Scalar.addi 432#32 (Scf.iv (clipW (loW (cW i) (sW i)) 432#32) 1#32 t.val)).toNat, 0] = _
  rw [field_unit_toNat (i 0).val (i 1).val 12 (i 0).isLt (i 1).isLt (by omega) t.val (t73_le i t)]; rfl
theorem off925_eq (i : grid0.Coords) (t : Fin (k0_t73_loop i).trips) : k0_off925 i t = ![432 + dlo (wid i) 12 + t.val, 8192] := by
  show ![(Scalar.addi 432#32 (Scf.iv (clipW (loW (cW i) (sW i)) 432#32) 1#32 t.val)).toNat, 8192] = _
  rw [field_unit_toNat (i 0).val (i 1).val 12 (i 0).isLt (i 1).isLt (by omega) t.val (t73_le i t)]; rfl

/-! ### Field 13 -/

theorem t79_loop_eq (i : grid0.Coords) : k0_t79_loop i = mainLoop (clipW (loW (cW i) (sW i)) 468#32) (clipW (hiW (cW i) (sW i)) 468#32) := rfl
theorem t82_loop_eq (i : grid0.Coords) : k0_t82_loop i = remLoop (clipW (loW (cW i) (sW i)) 468#32) (clipW (hiW (cW i) (sW i)) 468#32) := rfl
theorem t79_trips (i : grid0.Coords) : (k0_t79_loop i).trips = dhi (wid i) 13 - dlo (wid i) 13 := by
  rw [t79_loop_eq]; exact field_main_trips (i 0).val (i 1).val 13 (i 0).isLt (i 1).isLt (by omega)
theorem t82_trips (i : grid0.Coords) : (k0_t82_loop i).trips = 0 := by
  rw [t82_loop_eq]; exact field_rem_trips (i 0).val (i 1).val 13 (i 0).isLt (i 1).isLt (by omega)
theorem t79_le (i : grid0.Coords) (t : Fin (k0_t79_loop i).trips) : t.val ≤ 36 := by
  have h1 := Nat.lt_of_lt_of_eq t.isLt (t79_trips i)
  have h2 := dhi_le (wid i) 13
  omega
theorem off963_eq (i : grid0.Coords) (t : Fin (k0_t79_loop i).trips) : k0_off963 i t = ![dlo (wid i) 13 + t.val, 0] := by
  show ![(Scf.iv (clipW (loW (cW i) (sW i)) 468#32) 1#32 t.val).toNat, 0] = _
  rw [field_iv_toNat (i 0).val (i 1).val 13 (i 0).isLt (i 1).isLt (by omega) t.val (t79_le i t)]; rfl
theorem off981_eq (i : grid0.Coords) (t : Fin (k0_t79_loop i).trips) : k0_off981 i t = ![468 + dlo (wid i) 13 + t.val, 0] := by
  show ![(Scalar.addi 468#32 (Scf.iv (clipW (loW (cW i) (sW i)) 468#32) 1#32 t.val)).toNat, 0] = _
  rw [field_unit_toNat (i 0).val (i 1).val 13 (i 0).isLt (i 1).isLt (by omega) t.val (t79_le i t)]; rfl
theorem off999_eq (i : grid0.Coords) (t : Fin (k0_t79_loop i).trips) : k0_off999 i t = ![468 + dlo (wid i) 13 + t.val, 8192] := by
  show ![(Scalar.addi 468#32 (Scf.iv (clipW (loW (cW i) (sW i)) 468#32) 1#32 t.val)).toNat, 8192] = _
  rw [field_unit_toNat (i 0).val (i 1).val 13 (i 0).isLt (i 1).isLt (by omega) t.val (t79_le i t)]; rfl

/-! ### Field 14 -/

theorem t85_loop_eq (i : grid0.Coords) : k0_t85_loop i = mainLoop (clipW (loW (cW i) (sW i)) 504#32) (clipW (hiW (cW i) (sW i)) 504#32) := rfl
theorem t88_loop_eq (i : grid0.Coords) : k0_t88_loop i = remLoop (clipW (loW (cW i) (sW i)) 504#32) (clipW (hiW (cW i) (sW i)) 504#32) := rfl
theorem t85_trips (i : grid0.Coords) : (k0_t85_loop i).trips = dhi (wid i) 14 - dlo (wid i) 14 := by
  rw [t85_loop_eq]; exact field_main_trips (i 0).val (i 1).val 14 (i 0).isLt (i 1).isLt (by omega)
theorem t88_trips (i : grid0.Coords) : (k0_t88_loop i).trips = 0 := by
  rw [t88_loop_eq]; exact field_rem_trips (i 0).val (i 1).val 14 (i 0).isLt (i 1).isLt (by omega)
theorem t85_le (i : grid0.Coords) (t : Fin (k0_t85_loop i).trips) : t.val ≤ 36 := by
  have h1 := Nat.lt_of_lt_of_eq t.isLt (t85_trips i)
  have h2 := dhi_le (wid i) 14
  omega
theorem off1037_eq (i : grid0.Coords) (t : Fin (k0_t85_loop i).trips) : k0_off1037 i t = ![dlo (wid i) 14 + t.val, 0] := by
  show ![(Scf.iv (clipW (loW (cW i) (sW i)) 504#32) 1#32 t.val).toNat, 0] = _
  rw [field_iv_toNat (i 0).val (i 1).val 14 (i 0).isLt (i 1).isLt (by omega) t.val (t85_le i t)]; rfl
theorem off1055_eq (i : grid0.Coords) (t : Fin (k0_t85_loop i).trips) : k0_off1055 i t = ![504 + dlo (wid i) 14 + t.val, 0] := by
  show ![(Scalar.addi 504#32 (Scf.iv (clipW (loW (cW i) (sW i)) 504#32) 1#32 t.val)).toNat, 0] = _
  rw [field_unit_toNat (i 0).val (i 1).val 14 (i 0).isLt (i 1).isLt (by omega) t.val (t85_le i t)]; rfl
theorem off1073_eq (i : grid0.Coords) (t : Fin (k0_t85_loop i).trips) : k0_off1073 i t = ![504 + dlo (wid i) 14 + t.val, 8192] := by
  show ![(Scalar.addi 504#32 (Scf.iv (clipW (loW (cW i) (sW i)) 504#32) 1#32 t.val)).toNat, 8192] = _
  rw [field_unit_toNat (i 0).val (i 1).val 14 (i 0).isLt (i 1).isLt (by omega) t.val (t85_le i t)]; rfl

/-! ### Field 15 -/

theorem t91_loop_eq (i : grid0.Coords) : k0_t91_loop i = mainLoop (clipW (loW (cW i) (sW i)) 540#32) (clipW (hiW (cW i) (sW i)) 540#32) := rfl
theorem t94_loop_eq (i : grid0.Coords) : k0_t94_loop i = remLoop (clipW (loW (cW i) (sW i)) 540#32) (clipW (hiW (cW i) (sW i)) 540#32) := rfl
theorem t91_trips (i : grid0.Coords) : (k0_t91_loop i).trips = dhi (wid i) 15 - dlo (wid i) 15 := by
  rw [t91_loop_eq]; exact field_main_trips (i 0).val (i 1).val 15 (i 0).isLt (i 1).isLt (by omega)
theorem t94_trips (i : grid0.Coords) : (k0_t94_loop i).trips = 0 := by
  rw [t94_loop_eq]; exact field_rem_trips (i 0).val (i 1).val 15 (i 0).isLt (i 1).isLt (by omega)
theorem t91_le (i : grid0.Coords) (t : Fin (k0_t91_loop i).trips) : t.val ≤ 36 := by
  have h1 := Nat.lt_of_lt_of_eq t.isLt (t91_trips i)
  have h2 := dhi_le (wid i) 15
  omega
theorem off1111_eq (i : grid0.Coords) (t : Fin (k0_t91_loop i).trips) : k0_off1111 i t = ![dlo (wid i) 15 + t.val, 0] := by
  show ![(Scf.iv (clipW (loW (cW i) (sW i)) 540#32) 1#32 t.val).toNat, 0] = _
  rw [field_iv_toNat (i 0).val (i 1).val 15 (i 0).isLt (i 1).isLt (by omega) t.val (t91_le i t)]; rfl
theorem off1129_eq (i : grid0.Coords) (t : Fin (k0_t91_loop i).trips) : k0_off1129 i t = ![540 + dlo (wid i) 15 + t.val, 0] := by
  show ![(Scalar.addi 540#32 (Scf.iv (clipW (loW (cW i) (sW i)) 540#32) 1#32 t.val)).toNat, 0] = _
  rw [field_unit_toNat (i 0).val (i 1).val 15 (i 0).isLt (i 1).isLt (by omega) t.val (t91_le i t)]; rfl
theorem off1147_eq (i : grid0.Coords) (t : Fin (k0_t91_loop i).trips) : k0_off1147 i t = ![540 + dlo (wid i) 15 + t.val, 8192] := by
  show ![(Scalar.addi 540#32 (Scf.iv (clipW (loW (cW i) (sW i)) 540#32) 1#32 t.val)).toNat, 8192] = _
  rw [field_unit_toNat (i 0).val (i 1).val 15 (i 0).isLt (i 1).isLt (by omega) t.val (t91_le i t)]; rfl

/-! ### Field 16 -/

theorem t97_loop_eq (i : grid0.Coords) : k0_t97_loop i = mainLoop (clipW (loW (cW i) (sW i)) 576#32) (clipW (hiW (cW i) (sW i)) 576#32) := rfl
theorem t100_loop_eq (i : grid0.Coords) : k0_t100_loop i = remLoop (clipW (loW (cW i) (sW i)) 576#32) (clipW (hiW (cW i) (sW i)) 576#32) := rfl
theorem t97_trips (i : grid0.Coords) : (k0_t97_loop i).trips = dhi (wid i) 16 - dlo (wid i) 16 := by
  rw [t97_loop_eq]; exact field_main_trips (i 0).val (i 1).val 16 (i 0).isLt (i 1).isLt (by omega)
theorem t100_trips (i : grid0.Coords) : (k0_t100_loop i).trips = 0 := by
  rw [t100_loop_eq]; exact field_rem_trips (i 0).val (i 1).val 16 (i 0).isLt (i 1).isLt (by omega)
theorem t97_le (i : grid0.Coords) (t : Fin (k0_t97_loop i).trips) : t.val ≤ 36 := by
  have h1 := Nat.lt_of_lt_of_eq t.isLt (t97_trips i)
  have h2 := dhi_le (wid i) 16
  omega
theorem off1185_eq (i : grid0.Coords) (t : Fin (k0_t97_loop i).trips) : k0_off1185 i t = ![dlo (wid i) 16 + t.val, 0] := by
  show ![(Scf.iv (clipW (loW (cW i) (sW i)) 576#32) 1#32 t.val).toNat, 0] = _
  rw [field_iv_toNat (i 0).val (i 1).val 16 (i 0).isLt (i 1).isLt (by omega) t.val (t97_le i t)]; rfl
theorem off1203_eq (i : grid0.Coords) (t : Fin (k0_t97_loop i).trips) : k0_off1203 i t = ![576 + dlo (wid i) 16 + t.val, 0] := by
  show ![(Scalar.addi 576#32 (Scf.iv (clipW (loW (cW i) (sW i)) 576#32) 1#32 t.val)).toNat, 0] = _
  rw [field_unit_toNat (i 0).val (i 1).val 16 (i 0).isLt (i 1).isLt (by omega) t.val (t97_le i t)]; rfl
theorem off1221_eq (i : grid0.Coords) (t : Fin (k0_t97_loop i).trips) : k0_off1221 i t = ![576 + dlo (wid i) 16 + t.val, 8192] := by
  show ![(Scalar.addi 576#32 (Scf.iv (clipW (loW (cW i) (sW i)) 576#32) 1#32 t.val)).toNat, 8192] = _
  rw [field_unit_toNat (i 0).val (i 1).val 16 (i 0).isLt (i 1).isLt (by omega) t.val (t97_le i t)]; rfl

/-! ### Field 17 -/

theorem t103_loop_eq (i : grid0.Coords) : k0_t103_loop i = mainLoop (clipW (loW (cW i) (sW i)) 612#32) (clipW (hiW (cW i) (sW i)) 612#32) := rfl
theorem t106_loop_eq (i : grid0.Coords) : k0_t106_loop i = remLoop (clipW (loW (cW i) (sW i)) 612#32) (clipW (hiW (cW i) (sW i)) 612#32) := rfl
theorem t103_trips (i : grid0.Coords) : (k0_t103_loop i).trips = dhi (wid i) 17 - dlo (wid i) 17 := by
  rw [t103_loop_eq]; exact field_main_trips (i 0).val (i 1).val 17 (i 0).isLt (i 1).isLt (by omega)
theorem t106_trips (i : grid0.Coords) : (k0_t106_loop i).trips = 0 := by
  rw [t106_loop_eq]; exact field_rem_trips (i 0).val (i 1).val 17 (i 0).isLt (i 1).isLt (by omega)
theorem t103_le (i : grid0.Coords) (t : Fin (k0_t103_loop i).trips) : t.val ≤ 36 := by
  have h1 := Nat.lt_of_lt_of_eq t.isLt (t103_trips i)
  have h2 := dhi_le (wid i) 17
  omega
theorem off1259_eq (i : grid0.Coords) (t : Fin (k0_t103_loop i).trips) : k0_off1259 i t = ![dlo (wid i) 17 + t.val, 0] := by
  show ![(Scf.iv (clipW (loW (cW i) (sW i)) 612#32) 1#32 t.val).toNat, 0] = _
  rw [field_iv_toNat (i 0).val (i 1).val 17 (i 0).isLt (i 1).isLt (by omega) t.val (t103_le i t)]; rfl
theorem off1277_eq (i : grid0.Coords) (t : Fin (k0_t103_loop i).trips) : k0_off1277 i t = ![612 + dlo (wid i) 17 + t.val, 0] := by
  show ![(Scalar.addi 612#32 (Scf.iv (clipW (loW (cW i) (sW i)) 612#32) 1#32 t.val)).toNat, 0] = _
  rw [field_unit_toNat (i 0).val (i 1).val 17 (i 0).isLt (i 1).isLt (by omega) t.val (t103_le i t)]; rfl
theorem off1295_eq (i : grid0.Coords) (t : Fin (k0_t103_loop i).trips) : k0_off1295 i t = ![612 + dlo (wid i) 17 + t.val, 8192] := by
  show ![(Scalar.addi 612#32 (Scf.iv (clipW (loW (cW i) (sW i)) 612#32) 1#32 t.val)).toNat, 8192] = _
  rw [field_unit_toNat (i 0).val (i 1).val 17 (i 0).isLt (i 1).isLt (by omega) t.val (t103_le i t)]; rfl

/-! ### Field 18 -/

theorem t109_loop_eq (i : grid0.Coords) : k0_t109_loop i = mainLoop (clipW (loW (cW i) (sW i)) 648#32) (clipW (hiW (cW i) (sW i)) 648#32) := rfl
theorem t112_loop_eq (i : grid0.Coords) : k0_t112_loop i = remLoop (clipW (loW (cW i) (sW i)) 648#32) (clipW (hiW (cW i) (sW i)) 648#32) := rfl
theorem t109_trips (i : grid0.Coords) : (k0_t109_loop i).trips = dhi (wid i) 18 - dlo (wid i) 18 := by
  rw [t109_loop_eq]; exact field_main_trips (i 0).val (i 1).val 18 (i 0).isLt (i 1).isLt (by omega)
theorem t112_trips (i : grid0.Coords) : (k0_t112_loop i).trips = 0 := by
  rw [t112_loop_eq]; exact field_rem_trips (i 0).val (i 1).val 18 (i 0).isLt (i 1).isLt (by omega)
theorem t109_le (i : grid0.Coords) (t : Fin (k0_t109_loop i).trips) : t.val ≤ 36 := by
  have h1 := Nat.lt_of_lt_of_eq t.isLt (t109_trips i)
  have h2 := dhi_le (wid i) 18
  omega
theorem off1333_eq (i : grid0.Coords) (t : Fin (k0_t109_loop i).trips) : k0_off1333 i t = ![dlo (wid i) 18 + t.val, 0] := by
  show ![(Scf.iv (clipW (loW (cW i) (sW i)) 648#32) 1#32 t.val).toNat, 0] = _
  rw [field_iv_toNat (i 0).val (i 1).val 18 (i 0).isLt (i 1).isLt (by omega) t.val (t109_le i t)]; rfl
theorem off1351_eq (i : grid0.Coords) (t : Fin (k0_t109_loop i).trips) : k0_off1351 i t = ![648 + dlo (wid i) 18 + t.val, 0] := by
  show ![(Scalar.addi 648#32 (Scf.iv (clipW (loW (cW i) (sW i)) 648#32) 1#32 t.val)).toNat, 0] = _
  rw [field_unit_toNat (i 0).val (i 1).val 18 (i 0).isLt (i 1).isLt (by omega) t.val (t109_le i t)]; rfl
theorem off1369_eq (i : grid0.Coords) (t : Fin (k0_t109_loop i).trips) : k0_off1369 i t = ![648 + dlo (wid i) 18 + t.val, 8192] := by
  show ![(Scalar.addi 648#32 (Scf.iv (clipW (loW (cW i) (sW i)) 648#32) 1#32 t.val)).toNat, 8192] = _
  rw [field_unit_toNat (i 0).val (i 1).val 18 (i 0).isLt (i 1).isLt (by omega) t.val (t109_le i t)]; rfl

/-! ### Field 19 -/

theorem t115_loop_eq (i : grid0.Coords) : k0_t115_loop i = mainLoop (clipW (loW (cW i) (sW i)) 684#32) (clipW (hiW (cW i) (sW i)) 684#32) := rfl
theorem t118_loop_eq (i : grid0.Coords) : k0_t118_loop i = remLoop (clipW (loW (cW i) (sW i)) 684#32) (clipW (hiW (cW i) (sW i)) 684#32) := rfl
theorem t115_trips (i : grid0.Coords) : (k0_t115_loop i).trips = dhi (wid i) 19 - dlo (wid i) 19 := by
  rw [t115_loop_eq]; exact field_main_trips (i 0).val (i 1).val 19 (i 0).isLt (i 1).isLt (by omega)
theorem t118_trips (i : grid0.Coords) : (k0_t118_loop i).trips = 0 := by
  rw [t118_loop_eq]; exact field_rem_trips (i 0).val (i 1).val 19 (i 0).isLt (i 1).isLt (by omega)
theorem t115_le (i : grid0.Coords) (t : Fin (k0_t115_loop i).trips) : t.val ≤ 36 := by
  have h1 := Nat.lt_of_lt_of_eq t.isLt (t115_trips i)
  have h2 := dhi_le (wid i) 19
  omega
theorem off1407_eq (i : grid0.Coords) (t : Fin (k0_t115_loop i).trips) : k0_off1407 i t = ![dlo (wid i) 19 + t.val, 0] := by
  show ![(Scf.iv (clipW (loW (cW i) (sW i)) 684#32) 1#32 t.val).toNat, 0] = _
  rw [field_iv_toNat (i 0).val (i 1).val 19 (i 0).isLt (i 1).isLt (by omega) t.val (t115_le i t)]; rfl
theorem off1425_eq (i : grid0.Coords) (t : Fin (k0_t115_loop i).trips) : k0_off1425 i t = ![684 + dlo (wid i) 19 + t.val, 0] := by
  show ![(Scalar.addi 684#32 (Scf.iv (clipW (loW (cW i) (sW i)) 684#32) 1#32 t.val)).toNat, 0] = _
  rw [field_unit_toNat (i 0).val (i 1).val 19 (i 0).isLt (i 1).isLt (by omega) t.val (t115_le i t)]; rfl
theorem off1443_eq (i : grid0.Coords) (t : Fin (k0_t115_loop i).trips) : k0_off1443 i t = ![684 + dlo (wid i) 19 + t.val, 8192] := by
  show ![(Scalar.addi 684#32 (Scf.iv (clipW (loW (cW i) (sW i)) 684#32) 1#32 t.val)).toNat, 8192] = _
  rw [field_unit_toNat (i 0).val (i 1).val 19 (i 0).isLt (i 1).isLt (by omega) t.val (t115_le i t)]; rfl

/-! ### Field 20 -/

theorem t121_loop_eq (i : grid0.Coords) : k0_t121_loop i = mainLoop (clipW (loW (cW i) (sW i)) 720#32) (clipW (hiW (cW i) (sW i)) 720#32) := rfl
theorem t124_loop_eq (i : grid0.Coords) : k0_t124_loop i = remLoop (clipW (loW (cW i) (sW i)) 720#32) (clipW (hiW (cW i) (sW i)) 720#32) := rfl
theorem t121_trips (i : grid0.Coords) : (k0_t121_loop i).trips = dhi (wid i) 20 - dlo (wid i) 20 := by
  rw [t121_loop_eq]; exact field_main_trips (i 0).val (i 1).val 20 (i 0).isLt (i 1).isLt (by omega)
theorem t124_trips (i : grid0.Coords) : (k0_t124_loop i).trips = 0 := by
  rw [t124_loop_eq]; exact field_rem_trips (i 0).val (i 1).val 20 (i 0).isLt (i 1).isLt (by omega)
theorem t121_le (i : grid0.Coords) (t : Fin (k0_t121_loop i).trips) : t.val ≤ 36 := by
  have h1 := Nat.lt_of_lt_of_eq t.isLt (t121_trips i)
  have h2 := dhi_le (wid i) 20
  omega
theorem off1481_eq (i : grid0.Coords) (t : Fin (k0_t121_loop i).trips) : k0_off1481 i t = ![dlo (wid i) 20 + t.val, 0] := by
  show ![(Scf.iv (clipW (loW (cW i) (sW i)) 720#32) 1#32 t.val).toNat, 0] = _
  rw [field_iv_toNat (i 0).val (i 1).val 20 (i 0).isLt (i 1).isLt (by omega) t.val (t121_le i t)]; rfl
theorem off1499_eq (i : grid0.Coords) (t : Fin (k0_t121_loop i).trips) : k0_off1499 i t = ![720 + dlo (wid i) 20 + t.val, 0] := by
  show ![(Scalar.addi 720#32 (Scf.iv (clipW (loW (cW i) (sW i)) 720#32) 1#32 t.val)).toNat, 0] = _
  rw [field_unit_toNat (i 0).val (i 1).val 20 (i 0).isLt (i 1).isLt (by omega) t.val (t121_le i t)]; rfl
theorem off1517_eq (i : grid0.Coords) (t : Fin (k0_t121_loop i).trips) : k0_off1517 i t = ![720 + dlo (wid i) 20 + t.val, 8192] := by
  show ![(Scalar.addi 720#32 (Scf.iv (clipW (loW (cW i) (sW i)) 720#32) 1#32 t.val)).toNat, 8192] = _
  rw [field_unit_toNat (i 0).val (i 1).val 20 (i 0).isLt (i 1).isLt (by omega) t.val (t121_le i t)]; rfl

/-! ### Field 21 -/

theorem t127_loop_eq (i : grid0.Coords) : k0_t127_loop i = mainLoop (clipW (loW (cW i) (sW i)) 756#32) (clipW (hiW (cW i) (sW i)) 756#32) := rfl
theorem t130_loop_eq (i : grid0.Coords) : k0_t130_loop i = remLoop (clipW (loW (cW i) (sW i)) 756#32) (clipW (hiW (cW i) (sW i)) 756#32) := rfl
theorem t127_trips (i : grid0.Coords) : (k0_t127_loop i).trips = dhi (wid i) 21 - dlo (wid i) 21 := by
  rw [t127_loop_eq]; exact field_main_trips (i 0).val (i 1).val 21 (i 0).isLt (i 1).isLt (by omega)
theorem t130_trips (i : grid0.Coords) : (k0_t130_loop i).trips = 0 := by
  rw [t130_loop_eq]; exact field_rem_trips (i 0).val (i 1).val 21 (i 0).isLt (i 1).isLt (by omega)
theorem t127_le (i : grid0.Coords) (t : Fin (k0_t127_loop i).trips) : t.val ≤ 36 := by
  have h1 := Nat.lt_of_lt_of_eq t.isLt (t127_trips i)
  have h2 := dhi_le (wid i) 21
  omega
theorem off1555_eq (i : grid0.Coords) (t : Fin (k0_t127_loop i).trips) : k0_off1555 i t = ![dlo (wid i) 21 + t.val, 0] := by
  show ![(Scf.iv (clipW (loW (cW i) (sW i)) 756#32) 1#32 t.val).toNat, 0] = _
  rw [field_iv_toNat (i 0).val (i 1).val 21 (i 0).isLt (i 1).isLt (by omega) t.val (t127_le i t)]; rfl
theorem off1573_eq (i : grid0.Coords) (t : Fin (k0_t127_loop i).trips) : k0_off1573 i t = ![756 + dlo (wid i) 21 + t.val, 0] := by
  show ![(Scalar.addi 756#32 (Scf.iv (clipW (loW (cW i) (sW i)) 756#32) 1#32 t.val)).toNat, 0] = _
  rw [field_unit_toNat (i 0).val (i 1).val 21 (i 0).isLt (i 1).isLt (by omega) t.val (t127_le i t)]; rfl
theorem off1591_eq (i : grid0.Coords) (t : Fin (k0_t127_loop i).trips) : k0_off1591 i t = ![756 + dlo (wid i) 21 + t.val, 8192] := by
  show ![(Scalar.addi 756#32 (Scf.iv (clipW (loW (cW i) (sW i)) 756#32) 1#32 t.val)).toNat, 8192] = _
  rw [field_unit_toNat (i 0).val (i 1).val 21 (i 0).isLt (i 1).isLt (by omega) t.val (t127_le i t)]; rfl

/-! ### Field 22 -/

theorem t133_loop_eq (i : grid0.Coords) : k0_t133_loop i = mainLoop (clipW (loW (cW i) (sW i)) 792#32) (clipW (hiW (cW i) (sW i)) 792#32) := rfl
theorem t136_loop_eq (i : grid0.Coords) : k0_t136_loop i = remLoop (clipW (loW (cW i) (sW i)) 792#32) (clipW (hiW (cW i) (sW i)) 792#32) := rfl
theorem t133_trips (i : grid0.Coords) : (k0_t133_loop i).trips = dhi (wid i) 22 - dlo (wid i) 22 := by
  rw [t133_loop_eq]; exact field_main_trips (i 0).val (i 1).val 22 (i 0).isLt (i 1).isLt (by omega)
theorem t136_trips (i : grid0.Coords) : (k0_t136_loop i).trips = 0 := by
  rw [t136_loop_eq]; exact field_rem_trips (i 0).val (i 1).val 22 (i 0).isLt (i 1).isLt (by omega)
theorem t133_le (i : grid0.Coords) (t : Fin (k0_t133_loop i).trips) : t.val ≤ 36 := by
  have h1 := Nat.lt_of_lt_of_eq t.isLt (t133_trips i)
  have h2 := dhi_le (wid i) 22
  omega
theorem off1629_eq (i : grid0.Coords) (t : Fin (k0_t133_loop i).trips) : k0_off1629 i t = ![dlo (wid i) 22 + t.val, 0] := by
  show ![(Scf.iv (clipW (loW (cW i) (sW i)) 792#32) 1#32 t.val).toNat, 0] = _
  rw [field_iv_toNat (i 0).val (i 1).val 22 (i 0).isLt (i 1).isLt (by omega) t.val (t133_le i t)]; rfl
theorem off1647_eq (i : grid0.Coords) (t : Fin (k0_t133_loop i).trips) : k0_off1647 i t = ![792 + dlo (wid i) 22 + t.val, 0] := by
  show ![(Scalar.addi 792#32 (Scf.iv (clipW (loW (cW i) (sW i)) 792#32) 1#32 t.val)).toNat, 0] = _
  rw [field_unit_toNat (i 0).val (i 1).val 22 (i 0).isLt (i 1).isLt (by omega) t.val (t133_le i t)]; rfl
theorem off1665_eq (i : grid0.Coords) (t : Fin (k0_t133_loop i).trips) : k0_off1665 i t = ![792 + dlo (wid i) 22 + t.val, 8192] := by
  show ![(Scalar.addi 792#32 (Scf.iv (clipW (loW (cW i) (sW i)) 792#32) 1#32 t.val)).toNat, 8192] = _
  rw [field_unit_toNat (i 0).val (i 1).val 22 (i 0).isLt (i 1).isLt (by omega) t.val (t133_le i t)]; rfl

/-! ### Field 23 -/

theorem t139_loop_eq (i : grid0.Coords) : k0_t139_loop i = mainLoop (clipW (loW (cW i) (sW i)) 828#32) (clipW (hiW (cW i) (sW i)) 828#32) := rfl
theorem t142_loop_eq (i : grid0.Coords) : k0_t142_loop i = remLoop (clipW (loW (cW i) (sW i)) 828#32) (clipW (hiW (cW i) (sW i)) 828#32) := rfl
theorem t139_trips (i : grid0.Coords) : (k0_t139_loop i).trips = dhi (wid i) 23 - dlo (wid i) 23 := by
  rw [t139_loop_eq]; exact field_main_trips (i 0).val (i 1).val 23 (i 0).isLt (i 1).isLt (by omega)
theorem t142_trips (i : grid0.Coords) : (k0_t142_loop i).trips = 0 := by
  rw [t142_loop_eq]; exact field_rem_trips (i 0).val (i 1).val 23 (i 0).isLt (i 1).isLt (by omega)
theorem t139_le (i : grid0.Coords) (t : Fin (k0_t139_loop i).trips) : t.val ≤ 36 := by
  have h1 := Nat.lt_of_lt_of_eq t.isLt (t139_trips i)
  have h2 := dhi_le (wid i) 23
  omega
theorem off1703_eq (i : grid0.Coords) (t : Fin (k0_t139_loop i).trips) : k0_off1703 i t = ![dlo (wid i) 23 + t.val, 0] := by
  show ![(Scf.iv (clipW (loW (cW i) (sW i)) 828#32) 1#32 t.val).toNat, 0] = _
  rw [field_iv_toNat (i 0).val (i 1).val 23 (i 0).isLt (i 1).isLt (by omega) t.val (t139_le i t)]; rfl
theorem off1721_eq (i : grid0.Coords) (t : Fin (k0_t139_loop i).trips) : k0_off1721 i t = ![828 + dlo (wid i) 23 + t.val, 0] := by
  show ![(Scalar.addi 828#32 (Scf.iv (clipW (loW (cW i) (sW i)) 828#32) 1#32 t.val)).toNat, 0] = _
  rw [field_unit_toNat (i 0).val (i 1).val 23 (i 0).isLt (i 1).isLt (by omega) t.val (t139_le i t)]; rfl
theorem off1739_eq (i : grid0.Coords) (t : Fin (k0_t139_loop i).trips) : k0_off1739 i t = ![828 + dlo (wid i) 23 + t.val, 8192] := by
  show ![(Scalar.addi 828#32 (Scf.iv (clipW (loW (cW i) (sW i)) 828#32) 1#32 t.val)).toNat, 8192] = _
  rw [field_unit_toNat (i 0).val (i 1).val 23 (i 0).isLt (i 1).isLt (by omega) t.val (t139_le i t)]; rfl

/-! ### Field 24 -/

theorem t145_loop_eq (i : grid0.Coords) : k0_t145_loop i = mainLoop (clipW (loW (cW i) (sW i)) 864#32) (clipW (hiW (cW i) (sW i)) 864#32) := rfl
theorem t148_loop_eq (i : grid0.Coords) : k0_t148_loop i = remLoop (clipW (loW (cW i) (sW i)) 864#32) (clipW (hiW (cW i) (sW i)) 864#32) := rfl
theorem t145_trips (i : grid0.Coords) : (k0_t145_loop i).trips = dhi (wid i) 24 - dlo (wid i) 24 := by
  rw [t145_loop_eq]; exact field_main_trips (i 0).val (i 1).val 24 (i 0).isLt (i 1).isLt (by omega)
theorem t148_trips (i : grid0.Coords) : (k0_t148_loop i).trips = 0 := by
  rw [t148_loop_eq]; exact field_rem_trips (i 0).val (i 1).val 24 (i 0).isLt (i 1).isLt (by omega)
theorem t145_le (i : grid0.Coords) (t : Fin (k0_t145_loop i).trips) : t.val ≤ 36 := by
  have h1 := Nat.lt_of_lt_of_eq t.isLt (t145_trips i)
  have h2 := dhi_le (wid i) 24
  omega
theorem off1777_eq (i : grid0.Coords) (t : Fin (k0_t145_loop i).trips) : k0_off1777 i t = ![dlo (wid i) 24 + t.val, 0] := by
  show ![(Scf.iv (clipW (loW (cW i) (sW i)) 864#32) 1#32 t.val).toNat, 0] = _
  rw [field_iv_toNat (i 0).val (i 1).val 24 (i 0).isLt (i 1).isLt (by omega) t.val (t145_le i t)]; rfl
theorem off1795_eq (i : grid0.Coords) (t : Fin (k0_t145_loop i).trips) : k0_off1795 i t = ![864 + dlo (wid i) 24 + t.val, 0] := by
  show ![(Scalar.addi 864#32 (Scf.iv (clipW (loW (cW i) (sW i)) 864#32) 1#32 t.val)).toNat, 0] = _
  rw [field_unit_toNat (i 0).val (i 1).val 24 (i 0).isLt (i 1).isLt (by omega) t.val (t145_le i t)]; rfl
theorem off1813_eq (i : grid0.Coords) (t : Fin (k0_t145_loop i).trips) : k0_off1813 i t = ![864 + dlo (wid i) 24 + t.val, 8192] := by
  show ![(Scalar.addi 864#32 (Scf.iv (clipW (loW (cW i) (sW i)) 864#32) 1#32 t.val)).toNat, 8192] = _
  rw [field_unit_toNat (i 0).val (i 1).val 24 (i 0).isLt (i 1).isLt (by omega) t.val (t145_le i t)]; rfl

/-! ### Field 25 -/

theorem t151_loop_eq (i : grid0.Coords) : k0_t151_loop i = mainLoop (clipW (loW (cW i) (sW i)) 900#32) (clipW (hiW (cW i) (sW i)) 900#32) := rfl
theorem t154_loop_eq (i : grid0.Coords) : k0_t154_loop i = remLoop (clipW (loW (cW i) (sW i)) 900#32) (clipW (hiW (cW i) (sW i)) 900#32) := rfl
theorem t151_trips (i : grid0.Coords) : (k0_t151_loop i).trips = dhi (wid i) 25 - dlo (wid i) 25 := by
  rw [t151_loop_eq]; exact field_main_trips (i 0).val (i 1).val 25 (i 0).isLt (i 1).isLt (by omega)
theorem t154_trips (i : grid0.Coords) : (k0_t154_loop i).trips = 0 := by
  rw [t154_loop_eq]; exact field_rem_trips (i 0).val (i 1).val 25 (i 0).isLt (i 1).isLt (by omega)
theorem t151_le (i : grid0.Coords) (t : Fin (k0_t151_loop i).trips) : t.val ≤ 36 := by
  have h1 := Nat.lt_of_lt_of_eq t.isLt (t151_trips i)
  have h2 := dhi_le (wid i) 25
  omega
theorem off1851_eq (i : grid0.Coords) (t : Fin (k0_t151_loop i).trips) : k0_off1851 i t = ![dlo (wid i) 25 + t.val, 0] := by
  show ![(Scf.iv (clipW (loW (cW i) (sW i)) 900#32) 1#32 t.val).toNat, 0] = _
  rw [field_iv_toNat (i 0).val (i 1).val 25 (i 0).isLt (i 1).isLt (by omega) t.val (t151_le i t)]; rfl
theorem off1869_eq (i : grid0.Coords) (t : Fin (k0_t151_loop i).trips) : k0_off1869 i t = ![900 + dlo (wid i) 25 + t.val, 0] := by
  show ![(Scalar.addi 900#32 (Scf.iv (clipW (loW (cW i) (sW i)) 900#32) 1#32 t.val)).toNat, 0] = _
  rw [field_unit_toNat (i 0).val (i 1).val 25 (i 0).isLt (i 1).isLt (by omega) t.val (t151_le i t)]; rfl
theorem off1887_eq (i : grid0.Coords) (t : Fin (k0_t151_loop i).trips) : k0_off1887 i t = ![900 + dlo (wid i) 25 + t.val, 8192] := by
  show ![(Scalar.addi 900#32 (Scf.iv (clipW (loW (cW i) (sW i)) 900#32) 1#32 t.val)).toNat, 8192] = _
  rw [field_unit_toNat (i 0).val (i 1).val 25 (i 0).isLt (i 1).isLt (by omega) t.val (t151_le i t)]; rfl

end Cert.Kernel.UnitArithK
-- ==== Proof.BodyTopBaseBits.lean ====
/-
  The tile's whole function, field by field.

  A tile (tile w = 2 s + c) owns rows [lo w, hi w) of the 936-row output array.  For each of the 26 fields in turn the
  function clips the tile's range to the field's 36 rows, fetches the field's row of the index array into the two index
  scratches when the clipped range is not empty, runs the field's loop over the clipped range (one output row per trip:
  the table row gathered at the index words), and a remainder loop that never has a trip.  The invariant between fields:
  the tile's rows below field j hold the specification's values and the others are untouched; the tables and the index
  array are read shares, whole; the four scratch buffers are held at some contents; every scoped semaphore is at zero.
-/
import proofs.«204037_g66941360275737_cont_sun_c4_657_24_alg».proof.Kernel
import proofs.«204037_g66941360275737_cont_sun_c4_657_24_alg».proof.Proof.Gen.Kernel
import proofs.«204037_g66941360275737_cont_sun_c4_657_24_alg».proof.Proof.Gen.Kernel.Skeleton
import proofs.«204037_g66941360275737_cont_sun_c4_657_24_alg».proof.Proof.BodyFetchBits
import proofs.«204037_g66941360275737_cont_sun_c4_657_24_alg».proof.Proof.Spec
import proofs.«204037_g66941360275737_cont_sun_c4_657_24_alg».proof.Proof.UnitArith
import proofs.«204037_g66941360275737_cont_sun_c4_657_24_alg».proof.Proof.UnitArithKBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

abbrev UH : Type := URounds (GSem nD τ sig) ℕ
abbrev UU : Type := UH × Counters

local notation "𝕄" => MT nD τ sig (HIx 1) (Elt F) ℕ UU ℕ

open Cert.UnitArith Cert.Kernel.UnitArithK

variable (L : grid0.Coords) (d : Dev nD) (defs : Defs nD τ sig (Elt F) Λ₀)

abbrev thr : Thread nD τ := V d ((L 0).castLE hcore0) ((L 1).castLE hsub0)
abbrev PT (α : Type) := Prog (TpuEff nD τ sig (Elt F) Λ₀ (.scVector ((L 0).castLE hcore0) ((L 1).castLE hsub0))) α

abbrev mX : Memref sig .scVector .hbm S26x16384 .i32 := Memref.whole main_v0_scv
abbrev mO : Memref sig .scVector .hbm S936x16384 .f32 := Memref.whole main_v27_scv
abbrev mRow : Memref sig .scVector .vmem S100000 .f32 := Memref.whole cc0_scratch0
abbrev mIa : Memref sig .scVector .vmem S8192 .i32 := Memref.whole cc0_scratch1
abbrev mIb : Memref sig .scVector .vmem S8192 .i32 := Memref.whole cc0_scratch2
abbrev mOch : Memref sig .scVector .vmem S8192 .f32 := Memref.whole cc0_scratch3

/-- The tile's rows of the output array. -/
def rowsSet (lo hi : ℕ) : Finset S936x16384.Idx := Finset.univ.filter fun x => lo ≤ (x 0).val ∧ (x 0).val < hi
theorem mem_rowsSet {lo hi : ℕ} {x : S936x16384.Idx} : x ∈ rowsSet lo hi ↔ lo ≤ (x 0).val ∧ (x 0).val < hi := by
  unfold rowsSet; rw [Finset.mem_filter]; exact ⟨fun h => h.2, fun h => ⟨Finset.mem_univ _, h⟩⟩

/-- What a field's main loop is asked to do, as a rule for the loop at the head of a program: from the field's table, the
    two index scratches holding the field's index row when the loop has a trip, and the tile's output rows, it
    leaves the rows of the field that the tile owns, [36 j + dlo, 36 j + dlo + trips), at the selected table entries and every other row as it was. -/
def DRule (j : ℕ) (hj : j < 26) (Tpt : PosShare TreeShare → (S36x100000.Idx → Elt F .f32) → sProp 𝕄) (s1 s2 s3 : DmaSems sig S_)
    (l : Scf.Loop 32) (hok : l.OK) (body : Fin l.trips → BitVec 32 → PT (F := F) L (BitVec 32)) : Prop :=
  ∀ {α : Type} (kk : BitVec 32 → PT (F := F) L α) (Q : α → sProp 𝕄)
    (O : CellTallies nD τ sig (HIx 1)) (W0 W : Waits sig (HIx 1)) (q : PosShare TreeShare)
    (fx : S26x16384.Idx → BitVec 32) (ft : S36x100000.Idx → Elt F .f32)
    (fr : Buf (Elt F) ((mRow).view.loc (thr L d))) (fo : Buf (Elt F) ((mOch).view.loc (thr L d)))
    (fa : Buf (Elt F) ((mIa).view.loc (thr L d))) (fb : Buf (Elt F) ((mIb).view.loc (thr L d)))
    (g0 : Buf (Elt F) ((mO).view.loc (thr L d))),
    (∀ p ∈ W, p ∈ W0 ∨ p.2 = none) →
    (∀ y, (fx y).toNat < 100000) →
    (0 < l.trips → (∀ (b : ℕ) (hb : b < 8192), (mIa).view.read (Elt F) fa (ix1 ⟨b, hb⟩) = fx (ix2 ⟨j, hj⟩ ⟨b, by omega⟩))
        ∧ (∀ (b : ℕ) (hb : b < 8192), (mIb).view.read (Elt F) fb (ix1 ⟨b, hb⟩) = fx (ix2 ⟨j, hj⟩ ⟨b + 8192, by omega⟩))) →
    iprop(Transfers.MayWaits (thr L d) (none : HIx 1) O ∗ Tpt q ft
        ∗ ((mRow).view.loc (thr L d) ↦{fullShare} fr) ∗ ((mOch).view.loc (thr L d) ↦{fullShare} fo) ∗ ((mIa).view.loc (thr L d) ↦{fullShare} fa) ∗ ((mIb).view.loc (thr L d) ↦{fullShare} fb)
        ∗ ((mO).view.loc (thr L d) ↦[rowsSet (Cert.Spec.lo (wid L)) (Cert.Spec.hi (wid L))]{fullShare} g0)
        ∗ semVal ((thr L d), SemLoc.dma s1.sem) 0 ∗ semVal ((thr L d), SemLoc.dma s2.sem) 0 ∗ semVal ((thr L d), SemLoc.dma s3.sem) 0 ∗ owes (thr L d) O W
        ∗ (∀ acc fr' fo' g W',
            ⌜∀ x ∈ rowsSet (Cert.Spec.lo (wid L)) (Cert.Spec.hi (wid L)), g x = if 36 * j + dlo (wid L) j ≤ (x 0).val ∧ (x 0).val < 36 * j + dlo (wid L) j + l.trips
                then ft (ix2 (Cert.Spec.compOf (x 0)) (Cert.Spec.rowIx (fx (ix2 ⟨j, hj⟩ (x 1))))) else g0 x⌝
            -∗ ⌜∀ p ∈ W', p ∈ W0 ∨ p.2 = none⌝
            -∗ Transfers.MayWaits (thr L d) (none : HIx 1) O -∗ Tpt q ft
            -∗ ((mRow).view.loc (thr L d) ↦{fullShare} fr') -∗ ((mOch).view.loc (thr L d) ↦{fullShare} fo') -∗ ((mIa).view.loc (thr L d) ↦{fullShare} fa) -∗ ((mIb).view.loc (thr L d) ↦{fullShare} fb)
            -∗ ((mO).view.loc (thr L d) ↦[rowsSet (Cert.Spec.lo (wid L)) (Cert.Spec.hi (wid L))]{fullShare} g)
            -∗ semVal ((thr L d), SemLoc.dma s1.sem) 0 -∗ semVal ((thr L d), SemLoc.dma s2.sem) 0 -∗ semVal ((thr L d), SemLoc.dma s3.sem) 0 -∗ owes (thr L d) O W'
            -∗ wp frame (wpE defs Variants.none (thr L d) none) Set.univ (kk acc) Q))
      ⊢ wp frame (wpE defs Variants.none (thr L d) none) Set.univ (Scf.Loop.for l hok 0#32 body >>= kk) Q

/-! ## Taking a few members out of a family and putting them back -/

section Take
variable {I : Type} [DecidableEq I]

theorem take2 {S : Finset I} {a b : I} (ha : a ∈ S) (hb : b ∈ S) (hab : a ≠ b) (Φ : I → sProp 𝕄) :
    bigSep S Φ = iprop((Φ a ∗ Φ b) ∗ bigSep (S \ {a, b}) Φ) := by
  rw [SparseCore.bigSep_sdiff_split' (t := {a, b}) (by
      intro x hx
      rcases Finset.mem_insert.1 hx with rfl | hx
      · exact ha
      · rw [Finset.mem_singleton.1 hx]; exact hb),
    SparseCore.bigSep_insert' (by rw [Finset.mem_singleton]; exact hab), bigSep_singleton]

theorem take3 {S : Finset I} {a b c : I} (ha : a ∈ S) (hb : b ∈ S) (hc : c ∈ S) (hab : a ≠ b) (hac : a ≠ c) (hbc : b ≠ c)
    (Φ : I → sProp 𝕄) :
    bigSep S Φ = iprop((Φ a ∗ Φ b ∗ Φ c) ∗ bigSep (S \ {a, b, c}) Φ) := by
  rw [SparseCore.bigSep_sdiff_split' (t := {a, b, c}) (by
      intro x hx
      rcases Finset.mem_insert.1 hx with rfl | hx
      · exact ha
      · rcases Finset.mem_insert.1 hx with rfl | hx
        · exact hb
        · rw [Finset.mem_singleton.1 hx]; exact hc),
    SparseCore.bigSep_insert' (by
      rw [Finset.mem_insert, Finset.mem_singleton]; exact fun h => h.elim hab hac),
    SparseCore.bigSep_insert' (by rw [Finset.mem_singleton]; exact hbc), bigSep_singleton]

theorem take4 {S : Finset I} {a b c e : I} (ha : a ∈ S) (hb : b ∈ S) (hc : c ∈ S) (he : e ∈ S)
    (hab : a ≠ b) (hac : a ≠ c) (hae : a ≠ e) (hbc : b ≠ c) (hbe : b ≠ e) (hce : c ≠ e) (Φ : I → sProp 𝕄) :
    bigSep S Φ = iprop((Φ a ∗ Φ b ∗ Φ c ∗ Φ e) ∗ bigSep (S \ {a, b, c, e}) Φ) := by
  rw [SparseCore.bigSep_sdiff_split' (t := {a, b, c, e}) (by
      intro x hx
      rcases Finset.mem_insert.1 hx with rfl | hx
      · exact ha
      · rcases Finset.mem_insert.1 hx with rfl | hx
        · exact hb
        · rcases Finset.mem_insert.1 hx with rfl | hx
          · exact hc
          · rw [Finset.mem_singleton.1 hx]; exact he),
    SparseCore.bigSep_insert' (by
      rw [Finset.mem_insert, Finset.mem_insert, Finset.mem_singleton]
      exact fun h => h.elim hab fun h => h.elim hac hae),
    SparseCore.bigSep_insert' (by
      rw [Finset.mem_insert, Finset.mem_singleton]; exact fun h => h.elim hbc hbe),
    SparseCore.bigSep_insert' (by rw [Finset.mem_singleton]; exact hce), bigSep_singleton]

end Take

/-! ## The waits a thread has recorded: every new one is at the kernels' own index -/

theorem waits_ins {W0 W : Waits sig (HIx 1)} (hW : ∀ p ∈ W, p ∈ W0 ∨ p.2 = none) (a b : SemLoc sig) :
    ∀ p ∈ insert (a, (none : HIx 1)) (insert (b, (none : HIx 1)) W), p ∈ W0 ∨ p.2 = none := by
  intro p hp
  rcases Finset.mem_insert.1 hp with rfl | hp
  · exact Or.inr rfl
  · rcases Finset.mem_insert.1 hp with rfl | hp
    · exact Or.inr rfl
    · exact hW p hp

/-! ## The output rows, field by field -/

/-- The tile's rows below field j hold the specification's values. -/
def Agree (lo hi : ℕ) (G g : S936x16384.Idx → Elt F .f32) (j : ℕ) : Prop :=
  ∀ x ∈ rowsSet lo hi, (x 0).val < 36 * j → g x = G x

theorem agree_zero (lo hi : ℕ) (G g : S936x16384.Idx → Elt F .f32) : Agree (F := F) lo hi G g 0 := by
  intro x _ h; omega

/-- One field more: the rows the field's loop wrote hold the field's values, the rows below are as they were. -/
theorem agree_step {w j : ℕ} {G g0 g : S936x16384.Idx → Elt F .f32} {n : ℕ} {V : S936x16384.Idx → Elt F .f32}
    (hn : n = dhi w j - dlo w j)
    (h0 : Agree (F := F) (Cert.Spec.lo w) (Cert.Spec.hi w) G g0 j)
    (hg : ∀ x ∈ rowsSet (Cert.Spec.lo w) (Cert.Spec.hi w), g x = if 36 * j + dlo w j ≤ (x 0).val ∧ (x 0).val < 36 * j + dlo w j + n then V x else g0 x)
    (hV : ∀ x : S936x16384.Idx, (x 0).val / 36 = j → V x = G x) :
    Agree (F := F) (Cert.Spec.lo w) (Cert.Spec.hi w) G g (j + 1) := by
  intro x hx hlt
  have hx' := mem_rowsSet.1 hx
  rw [hg x hx]
  have hdl := dlo_le_dhi w j
  have hdh := dhi_le w j
  by_cases hf : (x 0).val < 36 * j
  · rw [if_neg (by omega)]; exact h0 x hx hf
  · have hq : (x 0).val / 36 = j := by omega
    have hm := (mem_range_iff' w j ((x 0).val % 36) (Nat.mod_lt _ (by decide))).2 (by omega)
    rw [if_pos (by omega)]; exact hV x hq

theorem ex_eq {A : Type} (Φ : A → sProp 𝕄) (a : A) : Φ a ⊢ iprop(∃ x, ⌜x = a⌝ ∗ Φ x) := by
  iintro H
  iexists a
  isplitr
  · ipureintro; rfl
  · iexact H

theorem waits_dite {W0 W : Waits sig (HIx 1)} (hW : ∀ p ∈ W, p ∈ W0 ∨ p.2 = none) (c : Prop) [Decidable c] (a b : SemLoc sig) :
    ∀ p ∈ (if hc : c then insert (a, (default : HIx 1)) (insert (b, (default : HIx 1)) W) else W), p ∈ W0 ∨ p.2 = none := by
  intro p hp
  split at hp
  · rcases Finset.mem_insert.1 hp with rfl | hp
    · exact Or.inr rfl
    · rcases Finset.mem_insert.1 hp with rfl | hp
      · exact Or.inr rfl
      · exact hW p hp
  · exact hW p hp

theorem outT_field (fx : S26x16384.Idx → BitVec 32) (tT : Fin 26 → S36x100000.Idx → Elt F .f32) (j : ℕ) (hj : j < 26)
    (x : S936x16384.Idx) (hx : (x 0).val / 36 = j) :
    tT ⟨j, hj⟩ (ix2 (Cert.Spec.compOf (x 0)) (Cert.Spec.rowIx (fx (ix2 ⟨j, hj⟩ (x 1))))) = Cert.Spec.outT fx tT x := by
  subst hx; rfl

/-- The bounds a field's loop rule asks for, when the field has a row of the tile's. -/
theorem field_bounds (w j : ℕ) (h : dlo w j < dhi w j) :
    Cert.Spec.lo w ≤ 36 * j + dlo w j ∧ 36 * j + dlo w j + (dhi w j - dlo w j) ≤ Cert.Spec.hi w
      ∧ 36 * j ≤ 36 * j + dlo w j ∧ 36 * j + dlo w j + (dhi w j - dlo w j) ≤ 36 * j + 36 := by
  have h1 := (mem_range_iff' w j (dlo w j) (by have := dhi_le w j; omega)).1 ⟨le_rfl, h⟩
  have h2 := (mem_range_iff' w j (dhi w j - 1) (by have := dhi_le w j; omega)).1 ⟨by omega, by omega⟩
  have := dhi_le w j
  omega

/-! ## The tile's scoped semaphores, taken out of the family by name and put back -/

theorem sem_mem (sm : SemLoc sig) (h : sm.isScoped .scVector = true) :
    (((thr L d), sm) : GSem nD τ sig) ∈ SparseCore.Cfg.ownCells (thr L d) :=
  SparseCore.Cfg.mem_ownCells.mpr ⟨rfl, h⟩

theorem sem_ne (a b : SemLoc sig) (h : a ≠ b) : (((thr L d), a) : GSem nD τ sig) ≠ ((thr L d), b) :=
  fun e => h (Prod.mk.inj e).2

theorem sems_take2 (a b : SemLoc sig) (ha : a.isScoped .scVector = true) (hb : b.isScoped .scVector = true) (hab : a ≠ b) :
    (SparseCore.Cfg.ownSems0 (thr L d) : sProp 𝕄)
      = iprop((semVal ((thr L d), a) 0 ∗ semVal ((thr L d), b) 0)
          ∗ bigSep (SparseCore.Cfg.ownCells (thr L d) \ {((thr L d), a), ((thr L d), b)}) fun g => semVal g 0) := by
  unfold SparseCore.Cfg.ownSems0
  exact take2 (sem_mem L d a ha) (sem_mem L d b hb) (sem_ne L d a b hab) _

theorem sems_take3 (a b c : SemLoc sig) (ha : a.isScoped .scVector = true) (hb : b.isScoped .scVector = true)
    (hc : c.isScoped .scVector = true) (hab : a ≠ b) (hac : a ≠ c) (hbc : b ≠ c) :
    (SparseCore.Cfg.ownSems0 (thr L d) : sProp 𝕄)
      = iprop((semVal ((thr L d), a) 0 ∗ semVal ((thr L d), b) 0 ∗ semVal ((thr L d), c) 0)
          ∗ bigSep (SparseCore.Cfg.ownCells (thr L d) \ {((thr L d), a), ((thr L d), b), ((thr L d), c)}) fun g => semVal g 0) := by
  unfold SparseCore.Cfg.ownSems0
  exact take3 (sem_mem L d a ha) (sem_mem L d b hb) (sem_mem L d c hc) (sem_ne L d a b hab) (sem_ne L d a c hac) (sem_ne L d b c hbc) _

/-! ## What the guarded fetch leaves in the two index scratches -/

/-- The words a copy of half a row of the index array carries. -/
abbrev fetched (j off : ℕ) (inb : ∀ a, (![j, off] : Fin 2 → ℕ) a + S1x8192.size a ≤ S26x16384.size a) (fx : S26x16384.Idx → BitVec 32) :
    S8192.Idx → Elt F .i32 :=
  ReadAs.same.apply (View.read (Elt F) (((Memref.whole main_v0_scv : Memref sig .scVector .hbm S26x16384 .i32).slice
    (Rect.unit (s := S26x16384) ![j, off] S1x8192.size inb) (fun _ => rfl)).squeeze S8192 squeezes_S1x8192_S8192).view fx)

/-- The guard holds whenever the field's loop has a trip, so the two scratches then hold the field's index row. -/
theorem idx_ok (j : ℕ) (hj : j < 26) (n : ℕ) (gd : BitVec 1) (fx : S26x16384.Idx → BitVec 32)
    (inbA : ∀ a, (![j, 0] : Fin 2 → ℕ) a + S1x8192.size a ≤ S26x16384.size a)
    (inbB : ∀ a, (![j, 8192] : Fin 2 → ℕ) a + S1x8192.size a ≤ S26x16384.size a)
    (fa0 fa : Buf (Elt F) ((mIa).view.loc (thr L d))) (fb0 fb : Buf (Elt F) ((mIb).view.loc (thr L d)))
    (hfa : fa = if hc : gd = 1#1 then View.write (Elt F) (mIa).view fa0 (fetched (F := F) j 0 inbA fx) Finset.univ else fa0)
    (hfb : fb = if hc : gd = 1#1 then View.write (Elt F) (mIb).view fb0 (fetched (F := F) j 8192 inbB fx) Finset.univ else fb0)
    (hg : 0 < n → gd = 1#1)
    (hfetch : ∀ (off : ℕ) (hoff : off + 8192 ≤ 16384) (inb : ∀ a, (![j, off] : Fin 2 → ℕ) a + S1x8192.size a ≤ S26x16384.size a)
      (b : ℕ) (hb : b < 8192), fetched (F := F) j off inb fx (ix1 ⟨b, hb⟩) = fx (ix2 ⟨j, hj⟩ ⟨b + off, by omega⟩))
    (hrw1 : ∀ (f : Buf (Elt F) ((mIa).view.loc (thr L d))) (P : S8192.Idx → Elt F .i32) (y : S8192.Idx), (mIa).view.read (Elt F) (View.write (Elt F) (mIa).view f P Finset.univ) y = P y)
    (hrw2 : ∀ (f : Buf (Elt F) ((mIb).view.loc (thr L d))) (P : S8192.Idx → Elt F .i32) (y : S8192.Idx), (mIb).view.read (Elt F) (View.write (Elt F) (mIb).view f P Finset.univ) y = P y) :
    0 < n → (∀ (b : ℕ) (hb : b < 8192), (mIa).view.read (Elt F) fa (ix1 ⟨b, hb⟩) = fx (ix2 ⟨j, hj⟩ ⟨b, by omega⟩))
      ∧ (∀ (b : ℕ) (hb : b < 8192), (mIb).view.read (Elt F) fb (ix1 ⟨b, hb⟩) = fx (ix2 ⟨j, hj⟩ ⟨b + 8192, by omega⟩)) := by
  intro h0
  have hgd := hg h0
  subst hfa hfb
  constructor
  · intro b hb; rw [dif_pos hgd, hrw1]; exact hfetch 0 (by decide) inbA b hb
  · intro b hb; rw [dif_pos hgd, hrw2]; exact hfetch 8192 (by decide) inbB b hb

/-- The field's index row in the two index scratches, when its loop has a trip. -/
def IdxOK (j : ℕ) (hj : j < 26) (n : ℕ) (fx : S26x16384.Idx → BitVec 32)
    (fa : Buf (Elt F) ((mIa).view.loc (thr L d))) (fb : Buf (Elt F) ((mIb).view.loc (thr L d))) : Prop :=
  0 < n → (∀ (b : ℕ) (hb : b < 8192), (mIa).view.read (Elt F) fa (ix1 ⟨b, hb⟩) = fx (ix2 ⟨j, hj⟩ ⟨b, by omega⟩))
      ∧ (∀ (b : ℕ) (hb : b < 8192), (mIb).view.read (Elt F) fb (ix1 ⟨b, hb⟩) = fx (ix2 ⟨j, hj⟩ ⟨b + 8192, by omega⟩))

/-- What the tile holds between two pieces of its function: its wait evidence, the read shares of the index array and the
    tables, the four scratches (the row and output scratches at anything), its rows of the output, its scoped semaphores at
    zero, and what it owes. -/
def TRes (O : CellTallies nD τ sig (HIx 1)) (W : Waits sig (HIx 1)) (q : PosShare TreeShare)
    (fx : S26x16384.Idx → BitVec 32) (tT : Fin 26 → S36x100000.Idx → Elt F .f32)
    (g : Buf (Elt F) ((mO).view.loc (thr L d))) (fa : Buf (Elt F) ((mIa).view.loc (thr L d))) (fb : Buf (Elt F) ((mIb).view.loc (thr L d))) : sProp 𝕄 :=
  iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ ((mIa).view.loc (thr L d) ↦{fullShare} fa) ∗ ((mIb).view.loc (thr L d) ↦{fullShare} fb)
        ∗ ((mO).view.loc (thr L d) ↦[rowsSet (Cert.Spec.lo (wid L)) (Cert.Spec.hi (wid L))]{fullShare} g)
        ∗ (SparseCore.Cfg.ownSems0 (thr L d) : sProp 𝕄)
        ∗ owes (thr L d) O W)

set_option maxHeartbeats 4000000 in
/-- The 26 fields' loop rules. -/
structure DRules : Prop where
  r0 : ∀ (w0 : BitVec 32) (w1 : BitVec 32) (w2 : BitVec 32) (w3 : BitVec 32), DRule (F := F) L d defs 0 (by decide) (fun q ft => ((Memref.whole main_v1_scv : Memref sig .scVector .hbm S36x100000 .f32).view.loc (thr L d) ↦{q} ft)) cc0_scoped2 cc0_scoped3 cc0_scoped4 (k0_t1_loop L) (k0_t1_ok L) (Gen.k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r1 : ∀ (w0 : BitVec 32) (w1 : BitVec 32) (w2 : BitVec 32) (w3 : BitVec 32), DRule (F := F) L d defs 1 (by decide) (fun q ft => ((Memref.whole main_v2_scv : Memref sig .scVector .hbm S36x100000 .f32).view.loc (thr L d) ↦{q} ft)) cc0_scoped10 cc0_scoped11 cc0_scoped12 (k0_t7_loop L) (k0_t7_ok L) (Gen.k0_t7_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r2 : ∀ (w0 : BitVec 32) (w1 : BitVec 32) (w2 : BitVec 32) (w3 : BitVec 32) (w4 : BitVec 32), DRule (F := F) L d defs 2 (by decide) (fun q ft => ((Memref.whole main_v3_scv : Memref sig .scVector .hbm S36x100000 .f32).view.loc (thr L d) ↦{q} ft)) cc0_scoped18 cc0_scoped19 cc0_scoped20 (k0_t13_loop L) (k0_t13_ok L) (Gen.k0_t13_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r3 : ∀ (w0 : BitVec 32) (w1 : BitVec 32) (w2 : BitVec 32) (w3 : BitVec 32) (w4 : BitVec 32), DRule (F := F) L d defs 3 (by decide) (fun q ft => ((Memref.whole main_v4_scv : Memref sig .scVector .hbm S36x100000 .f32).view.loc (thr L d) ↦{q} ft)) cc0_scoped26 cc0_scoped27 cc0_scoped28 (k0_t19_loop L) (k0_t19_ok L) (Gen.k0_t19_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r4 : ∀ (w0 : BitVec 32) (w1 : BitVec 32) (w2 : BitVec 32) (w3 : BitVec 32) (w4 : BitVec 32), DRule (F := F) L d defs 4 (by decide) (fun q ft => ((Memref.whole main_v5_scv : Memref sig .scVector .hbm S36x100000 .f32).view.loc (thr L d) ↦{q} ft)) cc0_scoped34 cc0_scoped35 cc0_scoped36 (k0_t25_loop L) (k0_t25_ok L) (Gen.k0_t25_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r5 : ∀ (w0 : BitVec 32) (w1 : BitVec 32) (w2 : BitVec 32) (w3 : BitVec 32) (w4 : BitVec 32) (w5 : BitVec 32), DRule (F := F) L d defs 5 (by decide) (fun q ft => ((Memref.whole main_v6_scv : Memref sig .scVector .hbm S36x100000 .f32).view.loc (thr L d) ↦{q} ft)) cc0_scoped42 cc0_scoped43 cc0_scoped44 (k0_t31_loop L) (k0_t31_ok L) (Gen.k0_t31_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r6 : ∀ (w0 : BitVec 32) (w1 : BitVec 32) (w2 : BitVec 32) (w3 : BitVec 32) (w4 : BitVec 1), DRule (F := F) L d defs 6 (by decide) (fun q ft => ((Memref.whole main_v7_scv : Memref sig .scVector .hbm S36x100000 .f32).view.loc (thr L d) ↦{q} ft)) cc0_scoped50 cc0_scoped51 cc0_scoped52 (k0_t37_loop L) (k0_t37_ok L) (Gen.k0_t37_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r7 : ∀ (w0 : BitVec 32) (w1 : BitVec 32) (w2 : BitVec 32) (w3 : BitVec 32) (w4 : BitVec 1) (w5 : BitVec 32), DRule (F := F) L d defs 7 (by decide) (fun q ft => ((Memref.whole main_v8_scv : Memref sig .scVector .hbm S36x100000 .f32).view.loc (thr L d) ↦{q} ft)) cc0_scoped58 cc0_scoped59 cc0_scoped60 (k0_t43_loop L) (k0_t43_ok L) (Gen.k0_t43_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r8 : ∀ (w0 : BitVec 32) (w1 : BitVec 32) (w2 : BitVec 32) (w3 : BitVec 32), DRule (F := F) L d defs 8 (by decide) (fun q ft => ((Memref.whole main_v9_scv : Memref sig .scVector .hbm S36x100000 .f32).view.loc (thr L d) ↦{q} ft)) cc0_scoped66 cc0_scoped67 cc0_scoped68 (k0_t49_loop L) (k0_t49_ok L) (Gen.k0_t49_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r9 : ∀ (w0 : BitVec 32) (w1 : BitVec 32) (w2 : BitVec 32) (w3 : BitVec 32) (w4 : BitVec 32), DRule (F := F) L d defs 9 (by decide) (fun q ft => ((Memref.whole main_v10_scv : Memref sig .scVector .hbm S36x100000 .f32).view.loc (thr L d) ↦{q} ft)) cc0_scoped74 cc0_scoped75 cc0_scoped76 (k0_t55_loop L) (k0_t55_ok L) (Gen.k0_t55_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r10 : ∀ (w0 : BitVec 32) (w1 : BitVec 32) (w2 : BitVec 32) (w3 : BitVec 32) (w4 : BitVec 32) (w5 : BitVec 32), DRule (F := F) L d defs 10 (by decide) (fun q ft => ((Memref.whole main_v11_scv : Memref sig .scVector .hbm S36x100000 .f32).view.loc (thr L d) ↦{q} ft)) cc0_scoped82 cc0_scoped83 cc0_scoped84 (k0_t61_loop L) (k0_t61_ok L) (Gen.k0_t61_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r11 : ∀ (w0 : BitVec 32) (w1 : BitVec 32) (w2 : BitVec 32) (w3 : BitVec 32) (w4 : BitVec 32) (w5 : BitVec 32) (w6 : BitVec 32), DRule (F := F) L d defs 11 (by decide) (fun q ft => ((Memref.whole main_v12_scv : Memref sig .scVector .hbm S36x100000 .f32).view.loc (thr L d) ↦{q} ft)) cc0_scoped90 cc0_scoped91 cc0_scoped92 (k0_t67_loop L) (k0_t67_ok L) (Gen.k0_t67_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6)
  r12 : ∀ (w0 : BitVec 32) (w1 : BitVec 32) (w2 : BitVec 32) (w3 : BitVec 32) (w4 : BitVec 32) (w5 : BitVec 32), DRule (F := F) L d defs 12 (by decide) (fun q ft => ((Memref.whole main_v13_scv : Memref sig .scVector .hbm S36x100000 .f32).view.loc (thr L d) ↦{q} ft)) cc0_scoped98 cc0_scoped99 cc0_scoped100 (k0_t73_loop L) (k0_t73_ok L) (Gen.k0_t73_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r13 : ∀ (w0 : BitVec 32) (w1 : BitVec 32) (w2 : BitVec 32) (w3 : BitVec 32) (w4 : BitVec 32) (w5 : BitVec 32) (w6 : BitVec 32), DRule (F := F) L d defs 13 (by decide) (fun q ft => ((Memref.whole main_v14_scv : Memref sig .scVector .hbm S36x100000 .f32).view.loc (thr L d) ↦{q} ft)) cc0_scoped106 cc0_scoped107 cc0_scoped108 (k0_t79_loop L) (k0_t79_ok L) (Gen.k0_t79_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6)
  r14 : ∀ (w0 : BitVec 32) (w1 : BitVec 32) (w2 : BitVec 32) (w3 : BitVec 32) (w4 : BitVec 32) (w5 : BitVec 32) (w6 : BitVec 32), DRule (F := F) L d defs 14 (by decide) (fun q ft => ((Memref.whole main_v15_scv : Memref sig .scVector .hbm S36x100000 .f32).view.loc (thr L d) ↦{q} ft)) cc0_scoped114 cc0_scoped115 cc0_scoped116 (k0_t85_loop L) (k0_t85_ok L) (Gen.k0_t85_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6)
  r15 : ∀ (w0 : BitVec 32) (w1 : BitVec 32) (w2 : BitVec 32) (w3 : BitVec 32), DRule (F := F) L d defs 15 (by decide) (fun q ft => ((Memref.whole main_v16_scv : Memref sig .scVector .hbm S36x100000 .f32).view.loc (thr L d) ↦{q} ft)) cc0_scoped122 cc0_scoped123 cc0_scoped124 (k0_t91_loop L) (k0_t91_ok L) (Gen.k0_t91_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r16 : ∀ (w0 : BitVec 32) (w1 : BitVec 32) (w2 : BitVec 32) (w3 : BitVec 32), DRule (F := F) L d defs 16 (by decide) (fun q ft => ((Memref.whole main_v17_scv : Memref sig .scVector .hbm S36x100000 .f32).view.loc (thr L d) ↦{q} ft)) cc0_scoped130 cc0_scoped131 cc0_scoped132 (k0_t97_loop L) (k0_t97_ok L) (Gen.k0_t97_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r17 : ∀ (w0 : BitVec 32) (w1 : BitVec 32) (w2 : BitVec 32) (w3 : BitVec 32) (w4 : BitVec 32), DRule (F := F) L d defs 17 (by decide) (fun q ft => ((Memref.whole main_v18_scv : Memref sig .scVector .hbm S36x100000 .f32).view.loc (thr L d) ↦{q} ft)) cc0_scoped138 cc0_scoped139 cc0_scoped140 (k0_t103_loop L) (k0_t103_ok L) (Gen.k0_t103_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r18 : ∀ (w0 : BitVec 32) (w1 : BitVec 32) (w2 : BitVec 32) (w3 : BitVec 32) (w4 : BitVec 32), DRule (F := F) L d defs 18 (by decide) (fun q ft => ((Memref.whole main_v19_scv : Memref sig .scVector .hbm S36x100000 .f32).view.loc (thr L d) ↦{q} ft)) cc0_scoped146 cc0_scoped147 cc0_scoped148 (k0_t109_loop L) (k0_t109_ok L) (Gen.k0_t109_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r19 : ∀ (w0 : BitVec 32) (w1 : BitVec 32) (w2 : BitVec 32) (w3 : BitVec 32) (w4 : BitVec 32), DRule (F := F) L d defs 19 (by decide) (fun q ft => ((Memref.whole main_v20_scv : Memref sig .scVector .hbm S36x100000 .f32).view.loc (thr L d) ↦{q} ft)) cc0_scoped154 cc0_scoped155 cc0_scoped156 (k0_t115_loop L) (k0_t115_ok L) (Gen.k0_t115_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r20 : ∀ (w0 : BitVec 32) (w1 : BitVec 32) (w2 : BitVec 32) (w3 : BitVec 32) (w4 : BitVec 32) (w5 : BitVec 32), DRule (F := F) L d defs 20 (by decide) (fun q ft => ((Memref.whole main_v21_scv : Memref sig .scVector .hbm S36x100000 .f32).view.loc (thr L d) ↦{q} ft)) cc0_scoped162 cc0_scoped163 cc0_scoped164 (k0_t121_loop L) (k0_t121_ok L) (Gen.k0_t121_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r21 : ∀ (w0 : BitVec 32) (w1 : BitVec 32) (w2 : BitVec 32) (w3 : BitVec 32) (w4 : BitVec 1), DRule (F := F) L d defs 21 (by decide) (fun q ft => ((Memref.whole main_v22_scv : Memref sig .scVector .hbm S36x100000 .f32).view.loc (thr L d) ↦{q} ft)) cc0_scoped170 cc0_scoped171 cc0_scoped172 (k0_t127_loop L) (k0_t127_ok L) (Gen.k0_t127_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r22 : ∀ (w0 : BitVec 32) (w1 : BitVec 32) (w2 : BitVec 32) (w3 : BitVec 32) (w4 : BitVec 1) (w5 : BitVec 32), DRule (F := F) L d defs 22 (by decide) (fun q ft => ((Memref.whole main_v23_scv : Memref sig .scVector .hbm S36x100000 .f32).view.loc (thr L d) ↦{q} ft)) cc0_scoped178 cc0_scoped179 cc0_scoped180 (k0_t133_loop L) (k0_t133_ok L) (Gen.k0_t133_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5)
  r23 : ∀ (w0 : BitVec 32) (w1 : BitVec 32) (w2 : BitVec 32) (w3 : BitVec 32), DRule (F := F) L d defs 23 (by decide) (fun q ft => ((Memref.whole main_v24_scv : Memref sig .scVector .hbm S36x100000 .f32).view.loc (thr L d) ↦{q} ft)) cc0_scoped186 cc0_scoped187 cc0_scoped188 (k0_t139_loop L) (k0_t139_ok L) (Gen.k0_t139_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3)
  r24 : ∀ (w0 : BitVec 32) (w1 : BitVec 32) (w2 : BitVec 32) (w3 : BitVec 32) (w4 : BitVec 32), DRule (F := F) L d defs 24 (by decide) (fun q ft => ((Memref.whole main_v25_scv : Memref sig .scVector .hbm S36x100000 .f32).view.loc (thr L d) ↦{q} ft)) cc0_scoped194 cc0_scoped195 cc0_scoped196 (k0_t145_loop L) (k0_t145_ok L) (Gen.k0_t145_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4)
  r25 : ∀ (w0 : BitVec 32), DRule (F := F) L d defs 25 (by decide) (fun q ft => ((Memref.whole main_v26_scv : Memref sig .scVector .hbm S36x100000 .f32).view.loc (thr L d) ↦{q} ft)) cc0_scoped202 cc0_scoped203 cc0_scoped204 (k0_t151_loop L) (k0_t151_ok L) (Gen.k0_t151_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0)

end Cert.Proof.BodyTopBits
-- ==== Proof.BodyTopP366Bits.lean ====
/-
  Piece 1 of the tile's function (the fetch of field 0, the loops of field 0, the fetch of field 1, the loops of field 1), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 1 of the tile's function: from the invariant below field 0 to the invariant below field 2. -/
theorem part366_spec (hD : DRules (F := F) L d defs) {α : Type} (kk : (Σ' (c36_i32_35 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 0)
    (p : PT (F := F) L α) (hp : p = (k0_part366 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 0#32 >>= kk))
    (hk : ∀ Wc' g' fa' fb', (∀ p ∈ Wc', p ∈ W ∨ p.2 = none) → Agree (F := F) (Cert.Spec.lo (wid L)) (Cert.Spec.hi (wid L)) (Cert.Spec.outT fx tT) g' 2 →
      TRes (F := F) L d O Wc' q fx tT g' fa' fb' ⊢ wp frame (wpE defs Variants.none (thr L d) none) Set.univ (kk ⟨36#32, (Scalar.maxsi 0#32 (Scalar.subi (loW (cW L) (sW L)) 72#32))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part366_eq_skeleton]
  unfold Gen.k0_part366_skel

  -- field 0: its index row is fetched when the field has a row of the tile's
  ihave Hsems := (Entails.of_eq (sems_take2 (F := F) L d (SemLoc.dma cc0_scoped0.sem) (SemLoc.dma cc0_scoped1.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped0.sem) (SemLoc.dma cc0_scoped1.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 0 (by decide) (k0_t1_loop L).trips fx fan0 fbn0 :=
    idx_ok (F := F) L d 0 (by decide) _ _ fx _ _ _ fan0 _ fbn0 hfa0 hfb0
      (fun h0 => (field_guard_iff (L 0).val (L 1).val 0 hcL hsL (by decide)).2 (by have := t1_trips L; unfold wid at this; omega))
      (hfetch 0 (by decide) fx) hrw1 hrw2
  clear hfa0 hfb0 hWe0

  -- field 0: its loop over the tile's rows of the field, then the remainder loop, which has no trip
  have htr1 : (k0_t1_loop L).trips = dhi (wid L) 0 - dlo (wid L) 0 := t1_trips L
  ihave Hsems := (Entails.of_eq (sems_take3 (F := F) L d (SemLoc.dma cc0_scoped2.sem) (SemLoc.dma cc0_scoped3.sem) (SemLoc.dma cc0_scoped4.sem) (by decide +revert) (by decide +revert) (by decide +revert) (by decide +revert) (by decide +revert) (by decide +revert))) $$ Hsems
  icases Hsems with ⟨⟨HsC, HsD, HsE⟩, Hsems⟩
  iapply (hD.r0 _ _ _ _ _ _ O W Wn0 q fx (tT ⟨0, by decide⟩) _ _ fan0 fbn0 g
    hWn0 hpre hidx0)
  isplitl [Hmw]; · iexact Hmw
  isplitl [Ht1]; · iexact Ht1
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht1 Hr Ho Ha Hb Hg HsC HsD HsE HO
  ihave Hsems := (Entails.of_eq (sems_take3 (F := F) L d (SemLoc.dma cc0_scoped2.sem) (SemLoc.dma cc0_scoped3.sem) (SemLoc.dma cc0_scoped4.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (0 + 1) :=
    agree_step htr1 hA hg1 (fun x hx => outT_field fx tT 0 (by decide) x hx)
  clear hg1
  sl_exec
  sl_for0 (t4_trips L)

  -- field 1: its index row is fetched when the field has a row of the tile's
  ihave Hsems := (Entails.of_eq (sems_take2 (F := F) L d (SemLoc.dma cc0_scoped8.sem) (SemLoc.dma cc0_scoped9.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped8.sem) (SemLoc.dma cc0_scoped9.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 1 (by decide) (k0_t7_loop L).trips fx fan2 fbn2 :=
    idx_ok (F := F) L d 1 (by decide) _ _ fx _ _ _ fan2 _ fbn2 hfa2 hfb2
      (fun h0 => (field_guard_iff (L 0).val (L 1).val 1 hcL hsL (by decide)).2 (by have := t7_trips L; unfold wid at this; omega))
      (hfetch 1 (by decide) fx) hrw1 hrw2
  clear hfa2 hfb2 hWe2

  -- field 1: its loop over the tile's rows of the field, then the remainder loop, which has no trip
  have htr3 : (k0_t7_loop L).trips = dhi (wid L) 1 - dlo (wid L) 1 := t7_trips L
  ihave Hsems := (Entails.of_eq (sems_take3 (F := F) L d (SemLoc.dma cc0_scoped10.sem) (SemLoc.dma cc0_scoped11.sem) (SemLoc.dma cc0_scoped12.sem) (by decide +revert) (by decide +revert) (by decide +revert) (by decide +revert) (by decide +revert) (by decide +revert))) $$ Hsems
  icases Hsems with ⟨⟨HsC, HsD, HsE⟩, Hsems⟩
  iapply (hD.r1 _ _ _ _ _ _ O W Wn2 q fx (tT ⟨1, by decide⟩) _ _ fan2 fbn2 gn1
    hWn2 hpre hidx2)
  isplitl [Hmw]; · iexact Hmw
  isplitl [Ht2]; · iexact Ht2
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht2 Hr Ho Ha Hb Hg HsC HsD HsE HO
  ihave Hsems := (Entails.of_eq (sems_take3 (F := F) L d (SemLoc.dma cc0_scoped10.sem) (SemLoc.dma cc0_scoped11.sem) (SemLoc.dma cc0_scoped12.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (1 + 1) :=
    agree_step htr3 hAn1 hg3 (fun x hx => outT_field fx tT 1 (by decide) x hx)
  clear hg3
  sl_exec
  sl_for0 (t10_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopP367Bits.lean ====
/-
  Piece 2 of the tile's function (the fetch of field 2, the loops of field 2, the fetch of field 3, the loops of field 3), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 2 of the tile's function: from the invariant below field 2 to the invariant below field 4. -/
theorem part367_spec (hD : DRules (F := F) L d defs) {α : Type} (kk : (Σ' (v105 : BitVec 32) (v106 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 2)
    (p : PT (F := F) L α) (hp : p = (k0_part367 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 36#32 (Scalar.maxsi 0#32 (Scalar.subi (loW (cW L) (sW L)) 72#32)) >>= kk))
    (hk : ∀ Wc' g' fa' fb', (∀ p ∈ Wc', p ∈ W ∨ p.2 = none) → Agree (F := F) (Cert.Spec.lo (wid L)) (Cert.Spec.hi (wid L)) (Cert.Spec.outT fx tT) g' 4 →
      TRes (F := F) L d O Wc' q fx tT g' fa' fb' ⊢ wp frame (wpE defs Variants.none (thr L d) none) Set.univ (kk ⟨(Scalar.minsi 36#32 (Scalar.maxsi 0#32 (Scalar.subi (loW (cW L) (sW L)) 144#32))), (Scalar.subi (hiW (cW L) (sW L)) 144#32), 0#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part367_eq_skeleton]
  unfold Gen.k0_part367_skel

  -- field 2: its index row is fetched when the field has a row of the tile's
  ihave Hsems := (Entails.of_eq (sems_take2 (F := F) L d (SemLoc.dma cc0_scoped16.sem) (SemLoc.dma cc0_scoped17.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped16.sem) (SemLoc.dma cc0_scoped17.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 2 (by decide) (k0_t13_loop L).trips fx fan0 fbn0 :=
    idx_ok (F := F) L d 2 (by decide) _ _ fx _ _ _ fan0 _ fbn0 hfa0 hfb0
      (fun h0 => (field_guard_iff (L 0).val (L 1).val 2 hcL hsL (by decide)).2 (by have := t13_trips L; unfold wid at this; omega))
      (hfetch 2 (by decide) fx) hrw1 hrw2
  clear hfa0 hfb0 hWe0

  -- field 2: its loop over the tile's rows of the field, then the remainder loop, which has no trip
  have htr1 : (k0_t13_loop L).trips = dhi (wid L) 2 - dlo (wid L) 2 := t13_trips L
  ihave Hsems := (Entails.of_eq (sems_take3 (F := F) L d (SemLoc.dma cc0_scoped18.sem) (SemLoc.dma cc0_scoped19.sem) (SemLoc.dma cc0_scoped20.sem) (by decide +revert) (by decide +revert) (by decide +revert) (by decide +revert) (by decide +revert) (by decide +revert))) $$ Hsems
  icases Hsems with ⟨⟨HsC, HsD, HsE⟩, Hsems⟩
  iapply (hD.r2 _ _ _ _ _ _ _ O W Wn0 q fx (tT ⟨2, by decide⟩) _ _ fan0 fbn0 g
    hWn0 hpre hidx0)
  isplitl [Hmw]; · iexact Hmw
  isplitl [Ht3]; · iexact Ht3
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht3 Hr Ho Ha Hb Hg HsC HsD HsE HO
  ihave Hsems := (Entails.of_eq (sems_take3 (F := F) L d (SemLoc.dma cc0_scoped18.sem) (SemLoc.dma cc0_scoped19.sem) (SemLoc.dma cc0_scoped20.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (2 + 1) :=
    agree_step htr1 hA hg1 (fun x hx => outT_field fx tT 2 (by decide) x hx)
  clear hg1
  sl_exec
  sl_for0 (t16_trips L)

  -- field 3: its index row is fetched when the field has a row of the tile's
  ihave Hsems := (Entails.of_eq (sems_take2 (F := F) L d (SemLoc.dma cc0_scoped24.sem) (SemLoc.dma cc0_scoped25.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped24.sem) (SemLoc.dma cc0_scoped25.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 3 (by decide) (k0_t19_loop L).trips fx fan2 fbn2 :=
    idx_ok (F := F) L d 3 (by decide) _ _ fx _ _ _ fan2 _ fbn2 hfa2 hfb2
      (fun h0 => (field_guard_iff (L 0).val (L 1).val 3 hcL hsL (by decide)).2 (by have := t19_trips L; unfold wid at this; omega))
      (hfetch 3 (by decide) fx) hrw1 hrw2
  clear hfa2 hfb2 hWe2

  -- field 3: its loop over the tile's rows of the field, then the remainder loop, which has no trip
  have htr3 : (k0_t19_loop L).trips = dhi (wid L) 3 - dlo (wid L) 3 := t19_trips L
  ihave Hsems := (Entails.of_eq (sems_take3 (F := F) L d (SemLoc.dma cc0_scoped26.sem) (SemLoc.dma cc0_scoped27.sem) (SemLoc.dma cc0_scoped28.sem) (by decide +revert) (by decide +revert) (by decide +revert) (by decide +revert) (by decide +revert) (by decide +revert))) $$ Hsems
  icases Hsems with ⟨⟨HsC, HsD, HsE⟩, Hsems⟩
  iapply (hD.r3 _ _ _ _ _ _ _ O W Wn2 q fx (tT ⟨3, by decide⟩) _ _ fan2 fbn2 gn1
    hWn2 hpre hidx2)
  isplitl [Hmw]; · iexact Hmw
  isplitl [Ht4]; · iexact Ht4
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht4 Hr Ho Ha Hb Hg HsC HsD HsE HO
  ihave Hsems := (Entails.of_eq (sems_take3 (F := F) L d (SemLoc.dma cc0_scoped26.sem) (SemLoc.dma cc0_scoped27.sem) (SemLoc.dma cc0_scoped28.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (3 + 1) :=
    agree_step htr3 hAn1 hg3 (fun x hx => outT_field fx tT 3 (by decide) x hx)
  clear hg3
  sl_exec
  sl_for0 (t22_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopP368Bits.lean ====
/-
  Piece 3 of the tile's function (the fetch of field 4, the loops of field 4, the fetch of field 5, the loops of field 5), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 3 of the tile's function: from the invariant below field 4 to the invariant below field 6. -/
theorem part368_spec (hD : DRules (F := F) L d defs) {α : Type} (kk : (Σ' (v137 : BitVec 32) (v140 : BitVec 32), BitVec 1) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 4)
    (p : PT (F := F) L α) (hp : p = (k0_part368 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 144#32))) (Scalar.subi (hiW (cW L) (sW L)) 144#32) 0#32 >>= kk))
    (hk : ∀ Wc' g' fa' fb', (∀ p ∈ Wc', p ∈ W ∨ p.2 = none) → Agree (F := F) (Cert.Spec.lo (wid L)) (Cert.Spec.hi (wid L)) (Cert.Spec.outT fx tT) g' 6 →
      TRes (F := F) L d O Wc' q fx tT g' fa' fb' ⊢ wp frame (wpE defs Variants.none (thr L d) none) Set.univ (kk ⟨(Scalar.minsi 36#32 (Scalar.maxsi 0#32 (Scalar.subi (loW (cW L) (sW L)) 216#32))), (Scalar.minsi 36#32 (Scalar.maxsi 0#32 (Scalar.subi (hiW (cW L) (sW L)) 216#32))), (Scalar.cmpi .sgt (Scalar.minsi 36#32 (Scalar.maxsi 0#32 (Scalar.subi (hiW (cW L) (sW L)) 216#32))) (Scalar.minsi 36#32 (Scalar.maxsi 0#32 (Scalar.subi (loW (cW L) (sW L)) 216#32))))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part368_eq_skeleton]
  unfold Gen.k0_part368_skel

  -- field 4: its index row is fetched when the field has a row of the tile's
  ihave Hsems := (Entails.of_eq (sems_take2 (F := F) L d (SemLoc.dma cc0_scoped32.sem) (SemLoc.dma cc0_scoped33.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped32.sem) (SemLoc.dma cc0_scoped33.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 4 (by decide) (k0_t25_loop L).trips fx fan0 fbn0 :=
    idx_ok (F := F) L d 4 (by decide) _ _ fx _ _ _ fan0 _ fbn0 hfa0 hfb0
      (fun h0 => (field_guard_iff (L 0).val (L 1).val 4 hcL hsL (by decide)).2 (by have := t25_trips L; unfold wid at this; omega))
      (hfetch 4 (by decide) fx) hrw1 hrw2
  clear hfa0 hfb0 hWe0

  -- field 4: its loop over the tile's rows of the field, then the remainder loop, which has no trip
  have htr1 : (k0_t25_loop L).trips = dhi (wid L) 4 - dlo (wid L) 4 := t25_trips L
  ihave Hsems := (Entails.of_eq (sems_take3 (F := F) L d (SemLoc.dma cc0_scoped34.sem) (SemLoc.dma cc0_scoped35.sem) (SemLoc.dma cc0_scoped36.sem) (by decide +revert) (by decide +revert) (by decide +revert) (by decide +revert) (by decide +revert) (by decide +revert))) $$ Hsems
  icases Hsems with ⟨⟨HsC, HsD, HsE⟩, Hsems⟩
  iapply (hD.r4 _ _ _ _ _ _ _ O W Wn0 q fx (tT ⟨4, by decide⟩) _ _ fan0 fbn0 g
    hWn0 hpre hidx0)
  isplitl [Hmw]; · iexact Hmw
  isplitl [Ht5]; · iexact Ht5
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht5 Hr Ho Ha Hb Hg HsC HsD HsE HO
  ihave Hsems := (Entails.of_eq (sems_take3 (F := F) L d (SemLoc.dma cc0_scoped34.sem) (SemLoc.dma cc0_scoped35.sem) (SemLoc.dma cc0_scoped36.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (4 + 1) :=
    agree_step htr1 hA hg1 (fun x hx => outT_field fx tT 4 (by decide) x hx)
  clear hg1
  sl_exec
  sl_for0 (t28_trips L)

  -- field 5: its index row is fetched when the field has a row of the tile's
  ihave Hsems := (Entails.of_eq (sems_take2 (F := F) L d (SemLoc.dma cc0_scoped40.sem) (SemLoc.dma cc0_scoped41.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped40.sem) (SemLoc.dma cc0_scoped41.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 5 (by decide) (k0_t31_loop L).trips fx fan2 fbn2 :=
    idx_ok (F := F) L d 5 (by decide) _ _ fx _ _ _ fan2 _ fbn2 hfa2 hfb2
      (fun h0 => (field_guard_iff (L 0).val (L 1).val 5 hcL hsL (by decide)).2 (by have := t31_trips L; unfold wid at this; omega))
      (hfetch 5 (by decide) fx) hrw1 hrw2
  clear hfa2 hfb2 hWe2

  -- field 5: its loop over the tile's rows of the field, then the remainder loop, which has no trip
  have htr3 : (k0_t31_loop L).trips = dhi (wid L) 5 - dlo (wid L) 5 := t31_trips L
  ihave Hsems := (Entails.of_eq (sems_take3 (F := F) L d (SemLoc.dma cc0_scoped42.sem) (SemLoc.dma cc0_scoped43.sem) (SemLoc.dma cc0_scoped44.sem) (by decide +revert) (by decide +revert) (by decide +revert) (by decide +revert) (by decide +revert) (by decide +revert))) $$ Hsems
  icases Hsems with ⟨⟨HsC, HsD, HsE⟩, Hsems⟩
  iapply (hD.r5 _ _ _ _ _ _ _ _ O W Wn2 q fx (tT ⟨5, by decide⟩) _ _ fan2 fbn2 gn1
    hWn2 hpre hidx2)
  isplitl [Hmw]; · iexact Hmw
  isplitl [Ht6]; · iexact Ht6
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht6 Hr Ho Ha Hb Hg HsC HsD HsE HO
  ihave Hsems := (Entails.of_eq (sems_take3 (F := F) L d (SemLoc.dma cc0_scoped42.sem) (SemLoc.dma cc0_scoped43.sem) (SemLoc.dma cc0_scoped44.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (5 + 1) :=
    agree_step htr3 hAn1 hg3 (fun x hx => outT_field fx tT 5 (by decide) x hx)
  clear hg3
  sl_exec
  sl_for0 (t34_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopEndBits.lean ====
/-
  What a decided fetch leaves in the two index scratches (a piece that ends right after a field's fetch runs the two cases
  of the fetch's guard apart).
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD)

/-- After the fetch itself, the two scratches hold the field's index row. -/
theorem idx_ok_pos (j : ℕ) (hj : j < 26) (n : ℕ) (fx : S26x16384.Idx → BitVec 32)
    (inbA : ∀ a, (![j, 0] : Fin 2 → ℕ) a + S1x8192.size a ≤ S26x16384.size a)
    (inbB : ∀ a, (![j, 8192] : Fin 2 → ℕ) a + S1x8192.size a ≤ S26x16384.size a)
    (fa0 fa : Buf (Elt F) ((mIa).view.loc (thr L d))) (fb0 fb : Buf (Elt F) ((mIb).view.loc (thr L d)))
    (hfa : fa = View.write (Elt F) (mIa).view fa0 (fetched (F := F) j 0 inbA fx) Finset.univ)
    (hfb : fb = View.write (Elt F) (mIb).view fb0 (fetched (F := F) j 8192 inbB fx) Finset.univ)
    (hfetch : ∀ (off : ℕ) (hoff : off + 8192 ≤ 16384) (inb : ∀ a, (![j, off] : Fin 2 → ℕ) a + S1x8192.size a ≤ S26x16384.size a)
      (b : ℕ) (hb : b < 8192), fetched (F := F) j off inb fx (ix1 ⟨b, hb⟩) = fx (ix2 ⟨j, hj⟩ ⟨b + off, by omega⟩))
    (hrw1 : ∀ (f : Buf (Elt F) ((mIa).view.loc (thr L d))) (P : S8192.Idx → Elt F .i32) (y : S8192.Idx), (mIa).view.read (Elt F) (View.write (Elt F) (mIa).view f P Finset.univ) y = P y)
    (hrw2 : ∀ (f : Buf (Elt F) ((mIb).view.loc (thr L d))) (P : S8192.Idx → Elt F .i32) (y : S8192.Idx), (mIb).view.read (Elt F) (View.write (Elt F) (mIb).view f P Finset.univ) y = P y) :
    IdxOK (F := F) L d j hj n fx fa fb := by
  intro _
  subst hfa hfb
  constructor
  · intro b hb; rw [hrw1]; exact hfetch 0 (by decide) inbA b hb
  · intro b hb; rw [hrw2]; exact hfetch 8192 (by decide) inbB b hb

end Cert.Proof.BodyTopBits
-- ==== Proof.BodyTopP369Bits.lean ====
/-
  Piece 4 of the tile's function (the fetch of field 6, the loops of field 6, the fetch of field 7, the loops of field 7, the fetch of field 8), as a rule for the piece at the head of
  a program: from the tile's rows holding the specification's values below the piece's first field to the same below its
  last field's successor, everything else the tile holds unchanged.
-/
import proofs.«204037_g66941360275737_cont_sun_c4_657_24_alg».proof.Proof.BodyTopEndBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 4 of the tile's function: from the invariant below field 6 to the invariant below field 8, field 8's index row fetched. -/
theorem part369_spec (hD : DRules (F := F) L d defs) {α : Type} (kk : (Σ' (v169 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 6)
    (p : PT (F := F) L α) (hp : p = (k0_part369 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 216#32))) (Scalar.minsi 36#32 (Scalar.maxsi 0#32 (Scalar.subi (hiW (cW L) (sW L)) 216#32))) (Scalar.cmpi .sgt (Scalar.minsi 36#32 (Scalar.maxsi 0#32 (Scalar.subi (hiW (cW L) (sW L)) 216#32))) (Scalar.minsi 36#32 (Scalar.maxsi 0#32 (Scalar.subi (loW (cW L) (sW L)) 216#32)))) >>= kk))
    (hk : ∀ Wc' g' fa' fb', (∀ p ∈ Wc', p ∈ W ∨ p.2 = none) → Agree (F := F) (Cert.Spec.lo (wid L)) (Cert.Spec.hi (wid L)) (Cert.Spec.outT fx tT) g' 8 → IdxOK (F := F) L d 8 (by decide) (k0_t49_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 288#32))), (Scalar.minsi 36#32 (Scalar.maxsi 0#32 (Scalar.subi (hiW (cW L) (sW L)) 288#32)))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part369_eq_skeleton]
  unfold Gen.k0_part369_skel

  -- field 6: its index row is fetched when the field has a row of the tile's
  ihave Hsems := (Entails.of_eq (sems_take2 (F := F) L d (SemLoc.dma cc0_scoped48.sem) (SemLoc.dma cc0_scoped49.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped48.sem) (SemLoc.dma cc0_scoped49.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 6 (by decide) (k0_t37_loop L).trips fx fan0 fbn0 :=
    idx_ok (F := F) L d 6 (by decide) _ _ fx _ _ _ fan0 _ fbn0 hfa0 hfb0
      (fun h0 => (field_guard_iff (L 0).val (L 1).val 6 hcL hsL (by decide)).2 (by have := t37_trips L; unfold wid at this; omega))
      (hfetch 6 (by decide) fx) hrw1 hrw2
  clear hfa0 hfb0 hWe0

  -- field 6: its loop over the tile's rows of the field, then the remainder loop, which has no trip
  have htr1 : (k0_t37_loop L).trips = dhi (wid L) 6 - dlo (wid L) 6 := t37_trips L
  ihave Hsems := (Entails.of_eq (sems_take3 (F := F) L d (SemLoc.dma cc0_scoped50.sem) (SemLoc.dma cc0_scoped51.sem) (SemLoc.dma cc0_scoped52.sem) (by decide +revert) (by decide +revert) (by decide +revert) (by decide +revert) (by decide +revert) (by decide +revert))) $$ Hsems
  icases Hsems with ⟨⟨HsC, HsD, HsE⟩, Hsems⟩
  iapply (hD.r6 _ _ _ _ _ _ _ O W Wn0 q fx (tT ⟨6, by decide⟩) _ _ fan0 fbn0 g
    hWn0 hpre hidx0)
  isplitl [Hmw]; · iexact Hmw
  isplitl [Ht7]; · iexact Ht7
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht7 Hr Ho Ha Hb Hg HsC HsD HsE HO
  ihave Hsems := (Entails.of_eq (sems_take3 (F := F) L d (SemLoc.dma cc0_scoped50.sem) (SemLoc.dma cc0_scoped51.sem) (SemLoc.dma cc0_scoped52.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (6 + 1) :=
    agree_step htr1 hA hg1 (fun x hx => outT_field fx tT 6 (by decide) x hx)
  clear hg1
  sl_exec
  sl_for0 (t40_trips L)

  -- field 7: its index row is fetched when the field has a row of the tile's
  ihave Hsems := (Entails.of_eq (sems_take2 (F := F) L d (SemLoc.dma cc0_scoped56.sem) (SemLoc.dma cc0_scoped57.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped56.sem) (SemLoc.dma cc0_scoped57.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 7 (by decide) (k0_t43_loop L).trips fx fan2 fbn2 :=
    idx_ok (F := F) L d 7 (by decide) _ _ fx _ _ _ fan2 _ fbn2 hfa2 hfb2
      (fun h0 => (field_guard_iff (L 0).val (L 1).val 7 hcL hsL (by decide)).2 (by have := t43_trips L; unfold wid at this; omega))
      (hfetch 7 (by decide) fx) hrw1 hrw2
  clear hfa2 hfb2 hWe2

  -- field 7: its loop over the tile's rows of the field, then the remainder loop, which has no trip
  have htr3 : (k0_t43_loop L).trips = dhi (wid L) 7 - dlo (wid L) 7 := t43_trips L
  ihave Hsems := (Entails.of_eq (sems_take3 (F := F) L d (SemLoc.dma cc0_scoped58.sem) (SemLoc.dma cc0_scoped59.sem) (SemLoc.dma cc0_scoped60.sem) (by decide +revert) (by decide +revert) (by decide +revert) (by decide +revert) (by decide +revert) (by decide +revert))) $$ Hsems
  icases Hsems with ⟨⟨HsC, HsD, HsE⟩, Hsems⟩
  iapply (hD.r7 _ _ _ _ _ _ _ _ O W Wn2 q fx (tT ⟨7, by decide⟩) _ _ fan2 fbn2 gn1
    hWn2 hpre hidx2)
  isplitl [Hmw]; · iexact Hmw
  isplitl [Ht8]; · iexact Ht8
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht8 Hr Ho Ha Hb Hg HsC HsD HsE HO
  ihave Hsems := (Entails.of_eq (sems_take3 (F := F) L d (SemLoc.dma cc0_scoped58.sem) (SemLoc.dma cc0_scoped59.sem) (SemLoc.dma cc0_scoped60.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (7 + 1) :=
    agree_step htr3 hAn1 hg3 (fun x hx => outT_field fx tT 7 (by decide) x hx)
  clear hg3
  sl_exec
  sl_for0 (t46_trips L)

  -- field 8, the piece's last: its index row is fetched when the field has a row of the tile's; the piece returns right
  -- after, so the two cases of the guard are run apart
  have htrE4 : (k0_t49_loop L).trips = dhi (wid L) 8 - dlo (wid L) 8 := t49_trips L
  ihave Hsems := (Entails.of_eq (sems_take2 (F := F) L d (SemLoc.dma cc0_scoped64.sem) (SemLoc.dma cc0_scoped65.sem) (by decide +revert) (by decide +revert) (by decide +revert))) $$ Hsems
  icases Hsems with ⟨⟨HsA, HsB⟩, Hsems⟩
  rcases Nat.lt_or_ge (dlo (wid L) 8) (dhi (wid L) 8) with hlt4 | hge4
  · have hgd4 := (field_guard_iff (L 0).val (L 1).val 8 hcL hsL (by decide)).2 hlt4
    sl_exec (disch := sl_exact hgd4)
    ihave Hsems := (Entails.of_eq (sems_take2 (F := F) L d (SemLoc.dma cc0_scoped64.sem) (SemLoc.dma cc0_scoped65.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn4, %hWe4, HO⟩
    ihave Ha := (ex_eq (fun f => (mIa).view.loc (thr L d) ↦{fullShare} f) _) $$ Ha
    icases Ha with ⟨%fan4, %hfa4, Ha⟩
    ihave Hb := (ex_eq (fun f => (mIb).view.loc (thr L d) ↦{fullShare} f) _) $$ Hb
    icases Hb with ⟨%fbn4, %hfb4, Hb⟩
    have hWn4 : ∀ p ∈ Wn4, p ∈ W ∨ p.2 = none := by rw [hWe4]; exact waits_ins hWn3 _ _
    have hidx4 : IdxOK (F := F) L d 8 (by decide) (k0_t49_loop L).trips fx fan4 fbn4 :=
      idx_ok_pos (F := F) L d 8 (by decide) _ fx _ _ _ fan4 _ fbn4 hfa4 hfb4 (hfetch 8 (by decide) fx) hrw1 hrw2
    iapply (hk Wn4 gn3 fan4 fbn4 hWn4 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng4 := mt (field_guard_iff (L 0).val (L 1).val 8 hcL hsL (by decide)).1 (Nat.not_lt.2 hge4)
    sl_exec (disch := sl_exact hng4)
    ihave Hsems := (Entails.of_eq (sems_take2 (F := F) L d (SemLoc.dma cc0_scoped64.sem) (SemLoc.dma cc0_scoped65.sem) (by decide +revert) (by decide +revert) (by decide +revert)).symm) $$ [HsA HsB Hsems]
    · isplitr [Hsems]
      · isplitl [HsA]
        · iexact HsA
        · iexact HsB
      · iexact Hsems
    have hidx4 : IdxOK (F := F) L d 8 (by decide) (k0_t49_loop L).trips fx fan2 fbn2 :=
      fun h0 => absurd h0 (by rw [htrE4]; omega)
    iapply (hk Wn3 gn3 fan2 fbn2 hWn3 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTopBits
-- ==== Proof.BodyTopP370Bits.lean ====
/-
  Piece 5 of the tile's function (the loops of field 8, the fetch of field 9, the loops of field 9, the fetch of field 10), as a rule for the piece at the head of
  a program: from the tile's rows holding the specification's values below the piece's first field to the same below its
  last field's successor, everything else the tile holds unchanged.
-/
import proofs.«204037_g66941360275737_cont_sun_c4_657_24_alg».proof.Proof.BodyTopEndBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 5 of the tile's function: from the invariant below field 8 to the invariant below field 10, field 10's index row fetched. -/
theorem part370_spec (hD : DRules (F := F) L d defs) {α : Type} (kk : (Σ' (v201 : BitVec 32) (c0_i32_120 : BitVec 32) (v208 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 8)
    (hidxIn : IdxOK (F := F) L d 8 (by decide) (k0_t49_loop L).trips fx fa fb)
    (p : PT (F := F) L α) (hp : p = (k0_part370 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 288#32))) (Scalar.minsi 36#32 (Scalar.maxsi 0#32 (Scalar.subi (hiW (cW L) (sW L)) 288#32))) >>= kk))
    (hk : ∀ Wc' g' fa' fb', (∀ p ∈ Wc', p ∈ W ∨ p.2 = none) → Agree (F := F) (Cert.Spec.lo (wid L)) (Cert.Spec.hi (wid L)) (Cert.Spec.outT fx tT) g' 10 → IdxOK (F := F) L d 10 (by decide) (k0_t61_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 360#32))), 0#32, (Scalar.subi (Scalar.minsi 36#32 (Scalar.maxsi 0#32 (Scalar.subi (hiW (cW L) (sW L)) 360#32))) (Scalar.minsi 36#32 (Scalar.maxsi 0#32 (Scalar.subi (loW (cW L) (sW L)) 360#32)))), 1#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part370_eq_skeleton]
  unfold Gen.k0_part370_skel

  -- field 8: its loop over the tile's rows of the field, then the remainder loop, which has no trip
  try sl_exec
  irw [Prog.bind_assoc]
  have htr0 : (k0_t49_loop L).trips = dhi (wid L) 8 - dlo (wid L) 8 := t49_trips L
  ihave Hsems := (Entails.of_eq (sems_take3 (F := F) L d (SemLoc.dma cc0_scoped66.sem) (SemLoc.dma cc0_scoped67.sem) (SemLoc.dma cc0_scoped68.sem) (by decide +revert) (by decide +revert) (by decide +revert) (by decide +revert) (by decide +revert) (by decide +revert))) $$ Hsems
  icases Hsems with ⟨⟨HsC, HsD, HsE⟩, Hsems⟩
  iapply (hD.r8 _ _ _ _ _ _ O W Wc q fx (tT ⟨8, by decide⟩) _ _ fa fb g
    hWc hpre hidxIn)
  isplitl [Hmw]; · iexact Hmw
  isplitl [Ht9]; · iexact Ht9
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht9 Hr Ho Ha Hb Hg HsC HsD HsE HO
  ihave Hsems := (Entails.of_eq (sems_take3 (F := F) L d (SemLoc.dma cc0_scoped66.sem) (SemLoc.dma cc0_scoped67.sem) (SemLoc.dma cc0_scoped68.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (8 + 1) :=
    agree_step htr0 hA hg0 (fun x hx => outT_field fx tT 8 (by decide) x hx)
  clear hg0
  first | sl_for0 (t52_trips L) | (irw [Prog.bind_assoc]; sl_for0 (t52_trips L)) | (sl_exec; sl_for0 (t52_trips L))

  -- field 9: its index row is fetched when the field has a row of the tile's
  ihave Hsems := (Entails.of_eq (sems_take2 (F := F) L d (SemLoc.dma cc0_scoped72.sem) (SemLoc.dma cc0_scoped73.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped72.sem) (SemLoc.dma cc0_scoped73.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 9 (by decide) (k0_t55_loop L).trips fx fan1 fbn1 :=
    idx_ok (F := F) L d 9 (by decide) _ _ fx _ _ _ fan1 _ fbn1 hfa1 hfb1
      (fun h0 => (field_guard_iff (L 0).val (L 1).val 9 hcL hsL (by decide)).2 (by have := t55_trips L; unfold wid at this; omega))
      (hfetch 9 (by decide) fx) hrw1 hrw2
  clear hfa1 hfb1 hWe1

  -- field 9: its loop over the tile's rows of the field, then the remainder loop, which has no trip
  have htr2 : (k0_t55_loop L).trips = dhi (wid L) 9 - dlo (wid L) 9 := t55_trips L
  ihave Hsems := (Entails.of_eq (sems_take3 (F := F) L d (SemLoc.dma cc0_scoped74.sem) (SemLoc.dma cc0_scoped75.sem) (SemLoc.dma cc0_scoped76.sem) (by decide +revert) (by decide +revert) (by decide +revert) (by decide +revert) (by decide +revert) (by decide +revert))) $$ Hsems
  icases Hsems with ⟨⟨HsC, HsD, HsE⟩, Hsems⟩
  iapply (hD.r9 _ _ _ _ _ _ _ O W Wn1 q fx (tT ⟨9, by decide⟩) _ _ fan1 fbn1 gn0
    hWn1 hpre hidx1)
  isplitl [Hmw]; · iexact Hmw
  isplitl [Ht10]; · iexact Ht10
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht10 Hr Ho Ha Hb Hg HsC HsD HsE HO
  ihave Hsems := (Entails.of_eq (sems_take3 (F := F) L d (SemLoc.dma cc0_scoped74.sem) (SemLoc.dma cc0_scoped75.sem) (SemLoc.dma cc0_scoped76.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (9 + 1) :=
    agree_step htr2 hAn0 hg2 (fun x hx => outT_field fx tT 9 (by decide) x hx)
  clear hg2
  sl_exec
  sl_for0 (t58_trips L)

  -- field 10, the piece's last: its index row is fetched when the field has a row of the tile's; the piece returns right
  -- after, so the two cases of the guard are run apart
  have htrE3 : (k0_t61_loop L).trips = dhi (wid L) 10 - dlo (wid L) 10 := t61_trips L
  ihave Hsems := (Entails.of_eq (sems_take2 (F := F) L d (SemLoc.dma cc0_scoped80.sem) (SemLoc.dma cc0_scoped81.sem) (by decide +revert) (by decide +revert) (by decide +revert))) $$ Hsems
  icases Hsems with ⟨⟨HsA, HsB⟩, Hsems⟩
  rcases Nat.lt_or_ge (dlo (wid L) 10) (dhi (wid L) 10) with hlt3 | hge3
  · have hgd3 := (field_guard_iff (L 0).val (L 1).val 10 hcL hsL (by decide)).2 hlt3
    sl_exec (disch := sl_exact hgd3)
    ihave Hsems := (Entails.of_eq (sems_take2 (F := F) L d (SemLoc.dma cc0_scoped80.sem) (SemLoc.dma cc0_scoped81.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn3, %hWe3, HO⟩
    ihave Ha := (ex_eq (fun f => (mIa).view.loc (thr L d) ↦{fullShare} f) _) $$ Ha
    icases Ha with ⟨%fan3, %hfa3, Ha⟩
    ihave Hb := (ex_eq (fun f => (mIb).view.loc (thr L d) ↦{fullShare} f) _) $$ Hb
    icases Hb with ⟨%fbn3, %hfb3, Hb⟩
    have hWn3 : ∀ p ∈ Wn3, p ∈ W ∨ p.2 = none := by rw [hWe3]; exact waits_ins hWn2 _ _
    have hidx3 : IdxOK (F := F) L d 10 (by decide) (k0_t61_loop L).trips fx fan3 fbn3 :=
      idx_ok_pos (F := F) L d 10 (by decide) _ fx _ _ _ fan3 _ fbn3 hfa3 hfb3 (hfetch 10 (by decide) fx) hrw1 hrw2
    iapply (hk Wn3 gn2 fan3 fbn3 hWn3 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng3 := mt (field_guard_iff (L 0).val (L 1).val 10 hcL hsL (by decide)).1 (Nat.not_lt.2 hge3)
    sl_exec (disch := sl_exact hng3)
    ihave Hsems := (Entails.of_eq (sems_take2 (F := F) L d (SemLoc.dma cc0_scoped80.sem) (SemLoc.dma cc0_scoped81.sem) (by decide +revert) (by decide +revert) (by decide +revert)).symm) $$ [HsA HsB Hsems]
    · isplitr [Hsems]
      · isplitl [HsA]
        · iexact HsA
        · iexact HsB
      · iexact Hsems
    have hidx3 : IdxOK (F := F) L d 10 (by decide) (k0_t61_loop L).trips fx fan1 fbn1 :=
      fun h0 => absurd h0 (by rw [htrE3]; omega)
    iapply (hk Wn2 gn2 fan1 fbn1 hWn2 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTopBits
-- ==== Proof.BodyTopP371Bits.lean ====
/-
  Piece 6 of the tile's function (the loops of field 10, the fetch of field 11, the loops of field 11, the fetch of field 12), as a rule for the piece at the head of
  a program: from the tile's rows holding the specification's values below the piece's first field to the same below its
  last field's successor, everything else the tile holds unchanged.
-/
import proofs.«204037_g66941360275737_cont_sun_c4_657_24_alg».proof.Proof.BodyTopEndBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 6 of the tile's function: from the invariant below field 10 to the invariant below field 12, field 12's index row fetched. -/
theorem part371_spec (hD : DRules (F := F) L d defs) {α : Type} (kk : (Σ' (v233 : BitVec 32) (c0_i32_140 : BitVec 32) (v244 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 10)
    (hidxIn : IdxOK (F := F) L d 10 (by decide) (k0_t61_loop L).trips fx fa fb)
    (p : PT (F := F) L α) (hp : p = (k0_part371 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 360#32))) 0#32 (Scalar.subi (Scalar.minsi 36#32 (Scalar.maxsi 0#32 (Scalar.subi (hiW (cW L) (sW L)) 360#32))) (Scalar.minsi 36#32 (Scalar.maxsi 0#32 (Scalar.subi (loW (cW L) (sW L)) 360#32)))) 1#32 >>= kk))
    (hk : ∀ Wc' g' fa' fb', (∀ p ∈ Wc', p ∈ W ∨ p.2 = none) → Agree (F := F) (Cert.Spec.lo (wid L)) (Cert.Spec.hi (wid L)) (Cert.Spec.outT fx tT) g' 12 → IdxOK (F := F) L d 12 (by decide) (k0_t73_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 432#32))), 0#32, (Scalar.addi (Scalar.minsi 36#32 (Scalar.maxsi 0#32 (Scalar.subi (loW (cW L) (sW L)) 432#32))) (Scalar.muli (Scalar.divsi (Scalar.subi (Scalar.minsi 36#32 (Scalar.maxsi 0#32 (Scalar.subi (hiW (cW L) (sW L)) 432#32))) (Scalar.minsi 36#32 (Scalar.maxsi 0#32 (Scalar.subi (loW (cW L) (sW L)) 432#32)))) 1#32) 1#32)), 1#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part371_eq_skeleton]
  unfold Gen.k0_part371_skel

  -- field 10: its loop over the tile's rows of the field, then the remainder loop, which has no trip
  try sl_exec
  irw [Prog.bind_assoc]
  have htr0 : (k0_t61_loop L).trips = dhi (wid L) 10 - dlo (wid L) 10 := t61_trips L
  ihave Hsems := (Entails.of_eq (sems_take3 (F := F) L d (SemLoc.dma cc0_scoped82.sem) (SemLoc.dma cc0_scoped83.sem) (SemLoc.dma cc0_scoped84.sem) (by decide +revert) (by decide +revert) (by decide +revert) (by decide +revert) (by decide +revert) (by decide +revert))) $$ Hsems
  icases Hsems with ⟨⟨HsC, HsD, HsE⟩, Hsems⟩
  iapply (hD.r10 _ _ _ _ _ _ _ _ O W Wc q fx (tT ⟨10, by decide⟩) _ _ fa fb g
    hWc hpre hidxIn)
  isplitl [Hmw]; · iexact Hmw
  isplitl [Ht11]; · iexact Ht11
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht11 Hr Ho Ha Hb Hg HsC HsD HsE HO
  ihave Hsems := (Entails.of_eq (sems_take3 (F := F) L d (SemLoc.dma cc0_scoped82.sem) (SemLoc.dma cc0_scoped83.sem) (SemLoc.dma cc0_scoped84.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (10 + 1) :=
    agree_step htr0 hA hg0 (fun x hx => outT_field fx tT 10 (by decide) x hx)
  clear hg0
  first | sl_for0 (t64_trips L) | (irw [Prog.bind_assoc]; sl_for0 (t64_trips L)) | (sl_exec; sl_for0 (t64_trips L))

  -- field 11: its index row is fetched when the field has a row of the tile's
  ihave Hsems := (Entails.of_eq (sems_take2 (F := F) L d (SemLoc.dma cc0_scoped88.sem) (SemLoc.dma cc0_scoped89.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped88.sem) (SemLoc.dma cc0_scoped89.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 11 (by decide) (k0_t67_loop L).trips fx fan1 fbn1 :=
    idx_ok (F := F) L d 11 (by decide) _ _ fx _ _ _ fan1 _ fbn1 hfa1 hfb1
      (fun h0 => (field_guard_iff (L 0).val (L 1).val 11 hcL hsL (by decide)).2 (by have := t67_trips L; unfold wid at this; omega))
      (hfetch 11 (by decide) fx) hrw1 hrw2
  clear hfa1 hfb1 hWe1

  -- field 11: its loop over the tile's rows of the field, then the remainder loop, which has no trip
  have htr2 : (k0_t67_loop L).trips = dhi (wid L) 11 - dlo (wid L) 11 := t67_trips L
  ihave Hsems := (Entails.of_eq (sems_take3 (F := F) L d (SemLoc.dma cc0_scoped90.sem) (SemLoc.dma cc0_scoped91.sem) (SemLoc.dma cc0_scoped92.sem) (by decide +revert) (by decide +revert) (by decide +revert) (by decide +revert) (by decide +revert) (by decide +revert))) $$ Hsems
  icases Hsems with ⟨⟨HsC, HsD, HsE⟩, Hsems⟩
  iapply (hD.r11 _ _ _ _ _ _ _ _ _ O W Wn1 q fx (tT ⟨11, by decide⟩) _ _ fan1 fbn1 gn0
    hWn1 hpre hidx1)
  isplitl [Hmw]; · iexact Hmw
  isplitl [Ht12]; · iexact Ht12
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht12 Hr Ho Ha Hb Hg HsC HsD HsE HO
  ihave Hsems := (Entails.of_eq (sems_take3 (F := F) L d (SemLoc.dma cc0_scoped90.sem) (SemLoc.dma cc0_scoped91.sem) (SemLoc.dma cc0_scoped92.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (11 + 1) :=
    agree_step htr2 hAn0 hg2 (fun x hx => outT_field fx tT 11 (by decide) x hx)
  clear hg2
  sl_exec
  sl_for0 (t70_trips L)

  -- field 12, the piece's last: its index row is fetched when the field has a row of the tile's; the piece returns right
  -- after, so the two cases of the guard are run apart
  have htrE3 : (k0_t73_loop L).trips = dhi (wid L) 12 - dlo (wid L) 12 := t73_trips L
  ihave Hsems := (Entails.of_eq (sems_take2 (F := F) L d (SemLoc.dma cc0_scoped96.sem) (SemLoc.dma cc0_scoped97.sem) (by decide +revert) (by decide +revert) (by decide +revert))) $$ Hsems
  icases Hsems with ⟨⟨HsA, HsB⟩, Hsems⟩
  rcases Nat.lt_or_ge (dlo (wid L) 12) (dhi (wid L) 12) with hlt3 | hge3
  · have hgd3 := (field_guard_iff (L 0).val (L 1).val 12 hcL hsL (by decide)).2 hlt3
    sl_exec (disch := sl_exact hgd3)
    ihave Hsems := (Entails.of_eq (sems_take2 (F := F) L d (SemLoc.dma cc0_scoped96.sem) (SemLoc.dma cc0_scoped97.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn3, %hWe3, HO⟩
    ihave Ha := (ex_eq (fun f => (mIa).view.loc (thr L d) ↦{fullShare} f) _) $$ Ha
    icases Ha with ⟨%fan3, %hfa3, Ha⟩
    ihave Hb := (ex_eq (fun f => (mIb).view.loc (thr L d) ↦{fullShare} f) _) $$ Hb
    icases Hb with ⟨%fbn3, %hfb3, Hb⟩
    have hWn3 : ∀ p ∈ Wn3, p ∈ W ∨ p.2 = none := by rw [hWe3]; exact waits_ins hWn2 _ _
    have hidx3 : IdxOK (F := F) L d 12 (by decide) (k0_t73_loop L).trips fx fan3 fbn3 :=
      idx_ok_pos (F := F) L d 12 (by decide) _ fx _ _ _ fan3 _ fbn3 hfa3 hfb3 (hfetch 12 (by decide) fx) hrw1 hrw2
    iapply (hk Wn3 gn2 fan3 fbn3 hWn3 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng3 := mt (field_guard_iff (L 0).val (L 1).val 12 hcL hsL (by decide)).1 (Nat.not_lt.2 hge3)
    sl_exec (disch := sl_exact hng3)
    ihave Hsems := (Entails.of_eq (sems_take2 (F := F) L d (SemLoc.dma cc0_scoped96.sem) (SemLoc.dma cc0_scoped97.sem) (by decide +revert) (by decide +revert) (by decide +revert)).symm) $$ [HsA HsB Hsems]
    · isplitr [Hsems]
      · isplitl [HsA]
        · iexact HsA
        · iexact HsB
      · iexact Hsems
    have hidx3 : IdxOK (F := F) L d 12 (by decide) (k0_t73_loop L).trips fx fan1 fbn1 :=
      fun h0 => absurd h0 (by rw [htrE3]; omega)
    iapply (hk Wn2 gn2 fan1 fbn1 hWn2 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTopBits
-- ==== Proof.BodyTopP372Bits.lean ====
/-
  Piece 7 of the tile's function (the loops of field 12, the fetch of field 13, the loops of field 13, the fetch of field 14, the loops of field 14), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 7 of the tile's function: from the invariant below field 12 to the invariant below field 15. -/
theorem part372_spec (hD : DRules (F := F) L d defs) {α : Type} (kk : (BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 12)
    (hidxIn : IdxOK (F := F) L d 12 (by decide) (k0_t73_loop L).trips fx fa fb)
    (p : PT (F := F) L α) (hp : p = (k0_part372 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 432#32))) 0#32 (Scalar.addi (Scalar.minsi 36#32 (Scalar.maxsi 0#32 (Scalar.subi (loW (cW L) (sW L)) 432#32))) (Scalar.muli (Scalar.divsi (Scalar.subi (Scalar.minsi 36#32 (Scalar.maxsi 0#32 (Scalar.subi (hiW (cW L) (sW L)) 432#32))) (Scalar.minsi 36#32 (Scalar.maxsi 0#32 (Scalar.subi (loW (cW L) (sW L)) 432#32)))) 1#32) 1#32)) 1#32 >>= kk))
    (hk : ∀ Wc' g' fa' fb', (∀ p ∈ Wc', p ∈ W ∨ p.2 = none) → Agree (F := F) (Cert.Spec.lo (wid L)) (Cert.Spec.hi (wid L)) (Cert.Spec.outT fx tT) g' 15 →
      TRes (F := F) L d O Wc' q fx tT g' fa' fb' ⊢ wp frame (wpE defs Variants.none (thr L d) none) Set.univ (kk (540#32)) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part372_eq_skeleton]
  unfold Gen.k0_part372_skel

  -- field 12: its loop over the tile's rows of the field, then the remainder loop, which has no trip
  try sl_exec
  irw [Prog.bind_assoc]
  have htr0 : (k0_t73_loop L).trips = dhi (wid L) 12 - dlo (wid L) 12 := t73_trips L
  ihave Hsems := (Entails.of_eq (sems_take3 (F := F) L d (SemLoc.dma cc0_scoped98.sem) (SemLoc.dma cc0_scoped99.sem) (SemLoc.dma cc0_scoped100.sem) (by decide +revert) (by decide +revert) (by decide +revert) (by decide +revert) (by decide +revert) (by decide +revert))) $$ Hsems
  icases Hsems with ⟨⟨HsC, HsD, HsE⟩, Hsems⟩
  iapply (hD.r12 _ _ _ _ _ _ _ _ O W Wc q fx (tT ⟨12, by decide⟩) _ _ fa fb g
    hWc hpre hidxIn)
  isplitl [Hmw]; · iexact Hmw
  isplitl [Ht13]; · iexact Ht13
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht13 Hr Ho Ha Hb Hg HsC HsD HsE HO
  ihave Hsems := (Entails.of_eq (sems_take3 (F := F) L d (SemLoc.dma cc0_scoped98.sem) (SemLoc.dma cc0_scoped99.sem) (SemLoc.dma cc0_scoped100.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (12 + 1) :=
    agree_step htr0 hA hg0 (fun x hx => outT_field fx tT 12 (by decide) x hx)
  clear hg0
  first | sl_for0 (t76_trips L) | (irw [Prog.bind_assoc]; sl_for0 (t76_trips L)) | (sl_exec; sl_for0 (t76_trips L))

  -- field 13: its index row is fetched when the field has a row of the tile's
  ihave Hsems := (Entails.of_eq (sems_take2 (F := F) L d (SemLoc.dma cc0_scoped104.sem) (SemLoc.dma cc0_scoped105.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped104.sem) (SemLoc.dma cc0_scoped105.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 13 (by decide) (k0_t79_loop L).trips fx fan1 fbn1 :=
    idx_ok (F := F) L d 13 (by decide) _ _ fx _ _ _ fan1 _ fbn1 hfa1 hfb1
      (fun h0 => (field_guard_iff (L 0).val (L 1).val 13 hcL hsL (by decide)).2 (by have := t79_trips L; unfold wid at this; omega))
      (hfetch 13 (by decide) fx) hrw1 hrw2
  clear hfa1 hfb1 hWe1

  -- field 13: its loop over the tile's rows of the field, then the remainder loop, which has no trip
  have htr2 : (k0_t79_loop L).trips = dhi (wid L) 13 - dlo (wid L) 13 := t79_trips L
  ihave Hsems := (Entails.of_eq (sems_take3 (F := F) L d (SemLoc.dma cc0_scoped106.sem) (SemLoc.dma cc0_scoped107.sem) (SemLoc.dma cc0_scoped108.sem) (by decide +revert) (by decide +revert) (by decide +revert) (by decide +revert) (by decide +revert) (by decide +revert))) $$ Hsems
  icases Hsems with ⟨⟨HsC, HsD, HsE⟩, Hsems⟩
  iapply (hD.r13 _ _ _ _ _ _ _ _ _ O W Wn1 q fx (tT ⟨13, by decide⟩) _ _ fan1 fbn1 gn0
    hWn1 hpre hidx1)
  isplitl [Hmw]; · iexact Hmw
  isplitl [Ht14]; · iexact Ht14
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht14 Hr Ho Ha Hb Hg HsC HsD HsE HO
  ihave Hsems := (Entails.of_eq (sems_take3 (F := F) L d (SemLoc.dma cc0_scoped106.sem) (SemLoc.dma cc0_scoped107.sem) (SemLoc.dma cc0_scoped108.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (13 + 1) :=
    agree_step htr2 hAn0 hg2 (fun x hx => outT_field fx tT 13 (by decide) x hx)
  clear hg2
  sl_exec
  sl_for0 (t82_trips L)

  -- field 14: its index row is fetched when the field has a row of the tile's
  ihave Hsems := (Entails.of_eq (sems_take2 (F := F) L d (SemLoc.dma cc0_scoped112.sem) (SemLoc.dma cc0_scoped113.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped112.sem) (SemLoc.dma cc0_scoped113.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn3, %hWe3, HO⟩
  ihave Ha := (ex_eq (fun f => (mIa).view.loc (thr L d) ↦{fullShare} f) _) $$ Ha
  icases Ha with ⟨%fan3, %hfa3, Ha⟩
  ihave Hb := (ex_eq (fun f => (mIb).view.loc (thr L d) ↦{fullShare} f) _) $$ Hb
  icases Hb with ⟨%fbn3, %hfb3, Hb⟩
  have hWn3 : ∀ p ∈ Wn3, p ∈ W ∨ p.2 = none := by rw [hWe3]; exact waits_dite hWn2 _ _ _
  have hidx3 : IdxOK (F := F) L d 14 (by decide) (k0_t85_loop L).trips fx fan3 fbn3 :=
    idx_ok (F := F) L d 14 (by decide) _ _ fx _ _ _ fan3 _ fbn3 hfa3 hfb3
      (fun h0 => (field_guard_iff (L 0).val (L 1).val 14 hcL hsL (by decide)).2 (by have := t85_trips L; unfold wid at this; omega))
      (hfetch 14 (by decide) fx) hrw1 hrw2
  clear hfa3 hfb3 hWe3

  -- field 14: its loop over the tile's rows of the field, then the remainder loop, which has no trip
  have htr4 : (k0_t85_loop L).trips = dhi (wid L) 14 - dlo (wid L) 14 := t85_trips L
  ihave Hsems := (Entails.of_eq (sems_take3 (F := F) L d (SemLoc.dma cc0_scoped114.sem) (SemLoc.dma cc0_scoped115.sem) (SemLoc.dma cc0_scoped116.sem) (by decide +revert) (by decide +revert) (by decide +revert) (by decide +revert) (by decide +revert) (by decide +revert))) $$ Hsems
  icases Hsems with ⟨⟨HsC, HsD, HsE⟩, Hsems⟩
  iapply (hD.r14 _ _ _ _ _ _ _ _ _ O W Wn3 q fx (tT ⟨14, by decide⟩) _ _ fan3 fbn3 gn2
    hWn3 hpre hidx3)
  isplitl [Hmw]; · iexact Hmw
  isplitl [Ht15]; · iexact Ht15
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc4 %fr4 %fo4 %gn4 %Wn4 %hg4 %hWn4 Hmw Ht15 Hr Ho Ha Hb Hg HsC HsD HsE HO
  ihave Hsems := (Entails.of_eq (sems_take3 (F := F) L d (SemLoc.dma cc0_scoped114.sem) (SemLoc.dma cc0_scoped115.sem) (SemLoc.dma cc0_scoped116.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn4 : Agree (F := F) (Cert.Spec.lo (wid L)) (Cert.Spec.hi (wid L)) (Cert.Spec.outT fx tT) gn4 (14 + 1) :=
    agree_step htr4 hAn2 hg4 (fun x hx => outT_field fx tT 14 (by decide) x hx)
  clear hg4
  sl_exec
  sl_for0 (t88_trips L)
  sl_exec
  iapply (hk Wn4 gn4 fan3 fbn3 hWn4 hAn4)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopP373Bits.lean ====
/-
  Piece 8 of the tile's function (the fetch of field 15, the loops of field 15, the fetch of field 16, the loops of field 16), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 8 of the tile's function: from the invariant below field 15 to the invariant below field 17. -/
theorem part373_spec (hD : DRules (F := F) L d defs) {α : Type} (kk : (Σ' (c36_i32_185 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 15)
    (p : PT (F := F) L α) (hp : p = (k0_part373 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 540#32 >>= kk))
    (hk : ∀ Wc' g' fa' fb', (∀ p ∈ Wc', p ∈ W ∨ p.2 = none) → Agree (F := F) (Cert.Spec.lo (wid L)) (Cert.Spec.hi (wid L)) (Cert.Spec.outT fx tT) g' 17 →
      TRes (F := F) L d O Wc' q fx tT g' fa' fb' ⊢ wp frame (wpE defs Variants.none (thr L d) none) Set.univ (kk ⟨36#32, (Scalar.maxsi 0#32 (Scalar.subi (loW (cW L) (sW L)) 612#32))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part373_eq_skeleton]
  unfold Gen.k0_part373_skel

  -- field 15: its index row is fetched when the field has a row of the tile's
  ihave Hsems := (Entails.of_eq (sems_take2 (F := F) L d (SemLoc.dma cc0_scoped120.sem) (SemLoc.dma cc0_scoped121.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped120.sem) (SemLoc.dma cc0_scoped121.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 15 (by decide) (k0_t91_loop L).trips fx fan0 fbn0 :=
    idx_ok (F := F) L d 15 (by decide) _ _ fx _ _ _ fan0 _ fbn0 hfa0 hfb0
      (fun h0 => (field_guard_iff (L 0).val (L 1).val 15 hcL hsL (by decide)).2 (by have := t91_trips L; unfold wid at this; omega))
      (hfetch 15 (by decide) fx) hrw1 hrw2
  clear hfa0 hfb0 hWe0

  -- field 15: its loop over the tile's rows of the field, then the remainder loop, which has no trip
  have htr1 : (k0_t91_loop L).trips = dhi (wid L) 15 - dlo (wid L) 15 := t91_trips L
  ihave Hsems := (Entails.of_eq (sems_take3 (F := F) L d (SemLoc.dma cc0_scoped122.sem) (SemLoc.dma cc0_scoped123.sem) (SemLoc.dma cc0_scoped124.sem) (by decide +revert) (by decide +revert) (by decide +revert) (by decide +revert) (by decide +revert) (by decide +revert))) $$ Hsems
  icases Hsems with ⟨⟨HsC, HsD, HsE⟩, Hsems⟩
  iapply (hD.r15 _ _ _ _ _ _ O W Wn0 q fx (tT ⟨15, by decide⟩) _ _ fan0 fbn0 g
    hWn0 hpre hidx0)
  isplitl [Hmw]; · iexact Hmw
  isplitl [Ht16]; · iexact Ht16
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht16 Hr Ho Ha Hb Hg HsC HsD HsE HO
  ihave Hsems := (Entails.of_eq (sems_take3 (F := F) L d (SemLoc.dma cc0_scoped122.sem) (SemLoc.dma cc0_scoped123.sem) (SemLoc.dma cc0_scoped124.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (15 + 1) :=
    agree_step htr1 hA hg1 (fun x hx => outT_field fx tT 15 (by decide) x hx)
  clear hg1
  sl_exec
  sl_for0 (t94_trips L)

  -- field 16: its index row is fetched when the field has a row of the tile's
  ihave Hsems := (Entails.of_eq (sems_take2 (F := F) L d (SemLoc.dma cc0_scoped128.sem) (SemLoc.dma cc0_scoped129.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped128.sem) (SemLoc.dma cc0_scoped129.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 16 (by decide) (k0_t97_loop L).trips fx fan2 fbn2 :=
    idx_ok (F := F) L d 16 (by decide) _ _ fx _ _ _ fan2 _ fbn2 hfa2 hfb2
      (fun h0 => (field_guard_iff (L 0).val (L 1).val 16 hcL hsL (by decide)).2 (by have := t97_trips L; unfold wid at this; omega))
      (hfetch 16 (by decide) fx) hrw1 hrw2
  clear hfa2 hfb2 hWe2

  -- field 16: its loop over the tile's rows of the field, then the remainder loop, which has no trip
  have htr3 : (k0_t97_loop L).trips = dhi (wid L) 16 - dlo (wid L) 16 := t97_trips L
  ihave Hsems := (Entails.of_eq (sems_take3 (F := F) L d (SemLoc.dma cc0_scoped130.sem) (SemLoc.dma cc0_scoped131.sem) (SemLoc.dma cc0_scoped132.sem) (by decide +revert) (by decide +revert) (by decide +revert) (by decide +revert) (by decide +revert) (by decide +revert))) $$ Hsems
  icases Hsems with ⟨⟨HsC, HsD, HsE⟩, Hsems⟩
  iapply (hD.r16 _ _ _ _ _ _ O W Wn2 q fx (tT ⟨16, by decide⟩) _ _ fan2 fbn2 gn1
    hWn2 hpre hidx2)
  isplitl [Hmw]; · iexact Hmw
  isplitl [Ht17]; · iexact Ht17
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht17 Hr Ho Ha Hb Hg HsC HsD HsE HO
  ihave Hsems := (Entails.of_eq (sems_take3 (F := F) L d (SemLoc.dma cc0_scoped130.sem) (SemLoc.dma cc0_scoped131.sem) (SemLoc.dma cc0_scoped132.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (16 + 1) :=
    agree_step htr3 hAn1 hg3 (fun x hx => outT_field fx tT 16 (by decide) x hx)
  clear hg3
  sl_exec
  sl_for0 (t100_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopP374Bits.lean ====
/-
  Piece 9 of the tile's function (the fetch of field 17, the loops of field 17, the fetch of field 18, the loops of field 18), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 9 of the tile's function: from the invariant below field 17 to the invariant below field 19. -/
theorem part374_spec (hD : DRules (F := F) L d defs) {α : Type} (kk : (Σ' (v345 : BitVec 32) (v346 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 17)
    (p : PT (F := F) L α) (hp : p = (k0_part374 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) 36#32 (Scalar.maxsi 0#32 (Scalar.subi (loW (cW L) (sW L)) 612#32)) >>= kk))
    (hk : ∀ Wc' g' fa' fb', (∀ p ∈ Wc', p ∈ W ∨ p.2 = none) → Agree (F := F) (Cert.Spec.lo (wid L)) (Cert.Spec.hi (wid L)) (Cert.Spec.outT fx tT) g' 19 →
      TRes (F := F) L d O Wc' q fx tT g' fa' fb' ⊢ wp frame (wpE defs Variants.none (thr L d) none) Set.univ (kk ⟨(Scalar.minsi 36#32 (Scalar.maxsi 0#32 (Scalar.subi (loW (cW L) (sW L)) 684#32))), (Scalar.subi (hiW (cW L) (sW L)) 684#32), 0#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part374_eq_skeleton]
  unfold Gen.k0_part374_skel

  -- field 17: its index row is fetched when the field has a row of the tile's
  ihave Hsems := (Entails.of_eq (sems_take2 (F := F) L d (SemLoc.dma cc0_scoped136.sem) (SemLoc.dma cc0_scoped137.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped136.sem) (SemLoc.dma cc0_scoped137.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 17 (by decide) (k0_t103_loop L).trips fx fan0 fbn0 :=
    idx_ok (F := F) L d 17 (by decide) _ _ fx _ _ _ fan0 _ fbn0 hfa0 hfb0
      (fun h0 => (field_guard_iff (L 0).val (L 1).val 17 hcL hsL (by decide)).2 (by have := t103_trips L; unfold wid at this; omega))
      (hfetch 17 (by decide) fx) hrw1 hrw2
  clear hfa0 hfb0 hWe0

  -- field 17: its loop over the tile's rows of the field, then the remainder loop, which has no trip
  have htr1 : (k0_t103_loop L).trips = dhi (wid L) 17 - dlo (wid L) 17 := t103_trips L
  ihave Hsems := (Entails.of_eq (sems_take3 (F := F) L d (SemLoc.dma cc0_scoped138.sem) (SemLoc.dma cc0_scoped139.sem) (SemLoc.dma cc0_scoped140.sem) (by decide +revert) (by decide +revert) (by decide +revert) (by decide +revert) (by decide +revert) (by decide +revert))) $$ Hsems
  icases Hsems with ⟨⟨HsC, HsD, HsE⟩, Hsems⟩
  iapply (hD.r17 _ _ _ _ _ _ _ O W Wn0 q fx (tT ⟨17, by decide⟩) _ _ fan0 fbn0 g
    hWn0 hpre hidx0)
  isplitl [Hmw]; · iexact Hmw
  isplitl [Ht18]; · iexact Ht18
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht18 Hr Ho Ha Hb Hg HsC HsD HsE HO
  ihave Hsems := (Entails.of_eq (sems_take3 (F := F) L d (SemLoc.dma cc0_scoped138.sem) (SemLoc.dma cc0_scoped139.sem) (SemLoc.dma cc0_scoped140.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (17 + 1) :=
    agree_step htr1 hA hg1 (fun x hx => outT_field fx tT 17 (by decide) x hx)
  clear hg1
  sl_exec
  sl_for0 (t106_trips L)

  -- field 18: its index row is fetched when the field has a row of the tile's
  ihave Hsems := (Entails.of_eq (sems_take2 (F := F) L d (SemLoc.dma cc0_scoped144.sem) (SemLoc.dma cc0_scoped145.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped144.sem) (SemLoc.dma cc0_scoped145.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 18 (by decide) (k0_t109_loop L).trips fx fan2 fbn2 :=
    idx_ok (F := F) L d 18 (by decide) _ _ fx _ _ _ fan2 _ fbn2 hfa2 hfb2
      (fun h0 => (field_guard_iff (L 0).val (L 1).val 18 hcL hsL (by decide)).2 (by have := t109_trips L; unfold wid at this; omega))
      (hfetch 18 (by decide) fx) hrw1 hrw2
  clear hfa2 hfb2 hWe2

  -- field 18: its loop over the tile's rows of the field, then the remainder loop, which has no trip
  have htr3 : (k0_t109_loop L).trips = dhi (wid L) 18 - dlo (wid L) 18 := t109_trips L
  ihave Hsems := (Entails.of_eq (sems_take3 (F := F) L d (SemLoc.dma cc0_scoped146.sem) (SemLoc.dma cc0_scoped147.sem) (SemLoc.dma cc0_scoped148.sem) (by decide +revert) (by decide +revert) (by decide +revert) (by decide +revert) (by decide +revert) (by decide +revert))) $$ Hsems
  icases Hsems with ⟨⟨HsC, HsD, HsE⟩, Hsems⟩
  iapply (hD.r18 _ _ _ _ _ _ _ O W Wn2 q fx (tT ⟨18, by decide⟩) _ _ fan2 fbn2 gn1
    hWn2 hpre hidx2)
  isplitl [Hmw]; · iexact Hmw
  isplitl [Ht19]; · iexact Ht19
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht19 Hr Ho Ha Hb Hg HsC HsD HsE HO
  ihave Hsems := (Entails.of_eq (sems_take3 (F := F) L d (SemLoc.dma cc0_scoped146.sem) (SemLoc.dma cc0_scoped147.sem) (SemLoc.dma cc0_scoped148.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (18 + 1) :=
    agree_step htr3 hAn1 hg3 (fun x hx => outT_field fx tT 18 (by decide) x hx)
  clear hg3
  sl_exec
  sl_for0 (t112_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopP375Bits.lean ====
/-
  Piece 10 of the tile's function (the fetch of field 19, the loops of field 19, the fetch of field 20, the loops of field 20), as a rule for the piece at the head of
  a program: from the tile's rows holding the specification's values below the piece's first field to the same below its
  last field's successor, everything else the tile holds unchanged.
-/
import proofs.«204037_g66941360275737_cont_sun_c4_657_24_alg».proof.Proof.BodyTopBaseBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 10 of the tile's function: from the invariant below field 19 to the invariant below field 21. -/
theorem part375_spec (hD : DRules (F := F) L d defs) {α : Type} (kk : (Σ' (v377 : BitVec 32) (v380 : BitVec 32), BitVec 1) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 19)
    (p : PT (F := F) L α) (hp : p = (k0_part375 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 684#32))) (Scalar.subi (hiW (cW L) (sW L)) 684#32) 0#32 >>= kk))
    (hk : ∀ Wc' g' fa' fb', (∀ p ∈ Wc', p ∈ W ∨ p.2 = none) → Agree (F := F) (Cert.Spec.lo (wid L)) (Cert.Spec.hi (wid L)) (Cert.Spec.outT fx tT) g' 21 →
      TRes (F := F) L d O Wc' q fx tT g' fa' fb' ⊢ wp frame (wpE defs Variants.none (thr L d) none) Set.univ (kk ⟨(Scalar.minsi 36#32 (Scalar.maxsi 0#32 (Scalar.subi (loW (cW L) (sW L)) 756#32))), (Scalar.minsi 36#32 (Scalar.maxsi 0#32 (Scalar.subi (hiW (cW L) (sW L)) 756#32))), (Scalar.cmpi .sgt (Scalar.minsi 36#32 (Scalar.maxsi 0#32 (Scalar.subi (hiW (cW L) (sW L)) 756#32))) (Scalar.minsi 36#32 (Scalar.maxsi 0#32 (Scalar.subi (loW (cW L) (sW L)) 756#32))))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part375_eq_skeleton]
  unfold Gen.k0_part375_skel

  -- field 19: its index row is fetched when the field has a row of the tile's
  ihave Hsems := (Entails.of_eq (sems_take2 (F := F) L d (SemLoc.dma cc0_scoped152.sem) (SemLoc.dma cc0_scoped153.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped152.sem) (SemLoc.dma cc0_scoped153.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 19 (by decide) (k0_t115_loop L).trips fx fan0 fbn0 :=
    idx_ok (F := F) L d 19 (by decide) _ _ fx _ _ _ fan0 _ fbn0 hfa0 hfb0
      (fun h0 => (field_guard_iff (L 0).val (L 1).val 19 hcL hsL (by decide)).2 (by have := t115_trips L; unfold wid at this; omega))
      (hfetch 19 (by decide) fx) hrw1 hrw2
  clear hfa0 hfb0 hWe0

  -- field 19: its loop over the tile's rows of the field, then the remainder loop, which has no trip
  have htr1 : (k0_t115_loop L).trips = dhi (wid L) 19 - dlo (wid L) 19 := t115_trips L
  ihave Hsems := (Entails.of_eq (sems_take3 (F := F) L d (SemLoc.dma cc0_scoped154.sem) (SemLoc.dma cc0_scoped155.sem) (SemLoc.dma cc0_scoped156.sem) (by decide +revert) (by decide +revert) (by decide +revert) (by decide +revert) (by decide +revert) (by decide +revert))) $$ Hsems
  icases Hsems with ⟨⟨HsC, HsD, HsE⟩, Hsems⟩
  iapply (hD.r19 _ _ _ _ _ _ _ O W Wn0 q fx (tT ⟨19, by decide⟩) _ _ fan0 fbn0 g
    hWn0 hpre hidx0)
  isplitl [Hmw]; · iexact Hmw
  isplitl [Ht20]; · iexact Ht20
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht20 Hr Ho Ha Hb Hg HsC HsD HsE HO
  ihave Hsems := (Entails.of_eq (sems_take3 (F := F) L d (SemLoc.dma cc0_scoped154.sem) (SemLoc.dma cc0_scoped155.sem) (SemLoc.dma cc0_scoped156.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (19 + 1) :=
    agree_step htr1 hA hg1 (fun x hx => outT_field fx tT 19 (by decide) x hx)
  clear hg1
  sl_exec
  sl_for0 (t118_trips L)

  -- field 20: its index row is fetched when the field has a row of the tile's
  ihave Hsems := (Entails.of_eq (sems_take2 (F := F) L d (SemLoc.dma cc0_scoped160.sem) (SemLoc.dma cc0_scoped161.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped160.sem) (SemLoc.dma cc0_scoped161.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 20 (by decide) (k0_t121_loop L).trips fx fan2 fbn2 :=
    idx_ok (F := F) L d 20 (by decide) _ _ fx _ _ _ fan2 _ fbn2 hfa2 hfb2
      (fun h0 => (field_guard_iff (L 0).val (L 1).val 20 hcL hsL (by decide)).2 (by have := t121_trips L; unfold wid at this; omega))
      (hfetch 20 (by decide) fx) hrw1 hrw2
  clear hfa2 hfb2 hWe2

  -- field 20: its loop over the tile's rows of the field, then the remainder loop, which has no trip
  have htr3 : (k0_t121_loop L).trips = dhi (wid L) 20 - dlo (wid L) 20 := t121_trips L
  ihave Hsems := (Entails.of_eq (sems_take3 (F := F) L d (SemLoc.dma cc0_scoped162.sem) (SemLoc.dma cc0_scoped163.sem) (SemLoc.dma cc0_scoped164.sem) (by decide +revert) (by decide +revert) (by decide +revert) (by decide +revert) (by decide +revert) (by decide +revert))) $$ Hsems
  icases Hsems with ⟨⟨HsC, HsD, HsE⟩, Hsems⟩
  iapply (hD.r20 _ _ _ _ _ _ _ _ O W Wn2 q fx (tT ⟨20, by decide⟩) _ _ fan2 fbn2 gn1
    hWn2 hpre hidx2)
  isplitl [Hmw]; · iexact Hmw
  isplitl [Ht21]; · iexact Ht21
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht21 Hr Ho Ha Hb Hg HsC HsD HsE HO
  ihave Hsems := (Entails.of_eq (sems_take3 (F := F) L d (SemLoc.dma cc0_scoped162.sem) (SemLoc.dma cc0_scoped163.sem) (SemLoc.dma cc0_scoped164.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (20 + 1) :=
    agree_step htr3 hAn1 hg3 (fun x hx => outT_field fx tT 20 (by decide) x hx)
  clear hg3
  sl_exec
  sl_for0 (t124_trips L)
  sl_exec
  iapply (hk Wn3 gn3 fan2 fbn2 hWn3 hAn3)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexists _; iexact Hr
  isplitl [Ho]; · iexists _; iexact Ho
  isplitl [Ha]; · iexact Ha
  isplitl [Hb]; · iexact Hb
  isplitl [Hg]; · iexact Hg
  isplitl [Hsems]; · iexact Hsems
  iexact HO

end Cert.Proof.BodyTopBits
-- ==== Proof.BodyTopP376Bits.lean ====
/-
  Piece 11 of the tile's function (the fetch of field 21, the loops of field 21, the fetch of field 22, the loops of field 22, the fetch of field 23), as a rule for the piece at the head of
  a program: from the tile's rows holding the specification's values below the piece's first field to the same below its
  last field's successor, everything else the tile holds unchanged.
-/
import proofs.«204037_g66941360275737_cont_sun_c4_657_24_alg».proof.Proof.BodyTopEndBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 11 of the tile's function: from the invariant below field 21 to the invariant below field 23, field 23's index row fetched. -/
theorem part376_spec (hD : DRules (F := F) L d defs) {α : Type} (kk : (Σ' (v409 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 21)
    (p : PT (F := F) L α) (hp : p = (k0_part376 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 756#32))) (Scalar.minsi 36#32 (Scalar.maxsi 0#32 (Scalar.subi (hiW (cW L) (sW L)) 756#32))) (Scalar.cmpi .sgt (Scalar.minsi 36#32 (Scalar.maxsi 0#32 (Scalar.subi (hiW (cW L) (sW L)) 756#32))) (Scalar.minsi 36#32 (Scalar.maxsi 0#32 (Scalar.subi (loW (cW L) (sW L)) 756#32)))) >>= kk))
    (hk : ∀ Wc' g' fa' fb', (∀ p ∈ Wc', p ∈ W ∨ p.2 = none) → Agree (F := F) (Cert.Spec.lo (wid L)) (Cert.Spec.hi (wid L)) (Cert.Spec.outT fx tT) g' 23 → IdxOK (F := F) L d 23 (by decide) (k0_t139_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 828#32))), (Scalar.minsi 36#32 (Scalar.maxsi 0#32 (Scalar.subi (hiW (cW L) (sW L)) 828#32)))⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part376_eq_skeleton]
  unfold Gen.k0_part376_skel

  -- field 21: its index row is fetched when the field has a row of the tile's
  ihave Hsems := (Entails.of_eq (sems_take2 (F := F) L d (SemLoc.dma cc0_scoped168.sem) (SemLoc.dma cc0_scoped169.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped168.sem) (SemLoc.dma cc0_scoped169.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn0, %hWe0, HO⟩
  ihave Ha := (ex_eq (fun f => (mIa).view.loc (thr L d) ↦{fullShare} f) _) $$ Ha
  icases Ha with ⟨%fan0, %hfa0, Ha⟩
  ihave Hb := (ex_eq (fun f => (mIb).view.loc (thr L d) ↦{fullShare} f) _) $$ Hb
  icases Hb with ⟨%fbn0, %hfb0, Hb⟩
  have hWn0 : ∀ p ∈ Wn0, p ∈ W ∨ p.2 = none := by rw [hWe0]; exact waits_dite hWc _ _ _
  have hidx0 : IdxOK (F := F) L d 21 (by decide) (k0_t127_loop L).trips fx fan0 fbn0 :=
    idx_ok (F := F) L d 21 (by decide) _ _ fx _ _ _ fan0 _ fbn0 hfa0 hfb0
      (fun h0 => (field_guard_iff (L 0).val (L 1).val 21 hcL hsL (by decide)).2 (by have := t127_trips L; unfold wid at this; omega))
      (hfetch 21 (by decide) fx) hrw1 hrw2
  clear hfa0 hfb0 hWe0

  -- field 21: its loop over the tile's rows of the field, then the remainder loop, which has no trip
  have htr1 : (k0_t127_loop L).trips = dhi (wid L) 21 - dlo (wid L) 21 := t127_trips L
  ihave Hsems := (Entails.of_eq (sems_take3 (F := F) L d (SemLoc.dma cc0_scoped170.sem) (SemLoc.dma cc0_scoped171.sem) (SemLoc.dma cc0_scoped172.sem) (by decide +revert) (by decide +revert) (by decide +revert) (by decide +revert) (by decide +revert) (by decide +revert))) $$ Hsems
  icases Hsems with ⟨⟨HsC, HsD, HsE⟩, Hsems⟩
  iapply (hD.r21 _ _ _ _ _ _ _ O W Wn0 q fx (tT ⟨21, by decide⟩) _ _ fan0 fbn0 g
    hWn0 hpre hidx0)
  isplitl [Hmw]; · iexact Hmw
  isplitl [Ht22]; · iexact Ht22
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc1 %fr1 %fo1 %gn1 %Wn1 %hg1 %hWn1 Hmw Ht22 Hr Ho Ha Hb Hg HsC HsD HsE HO
  ihave Hsems := (Entails.of_eq (sems_take3 (F := F) L d (SemLoc.dma cc0_scoped170.sem) (SemLoc.dma cc0_scoped171.sem) (SemLoc.dma cc0_scoped172.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn1 : Agree (F := F) (Cert.Spec.lo (wid L)) (Cert.Spec.hi (wid L)) (Cert.Spec.outT fx tT) gn1 (21 + 1) :=
    agree_step htr1 hA hg1 (fun x hx => outT_field fx tT 21 (by decide) x hx)
  clear hg1
  sl_exec
  sl_for0 (t130_trips L)

  -- field 22: its index row is fetched when the field has a row of the tile's
  ihave Hsems := (Entails.of_eq (sems_take2 (F := F) L d (SemLoc.dma cc0_scoped176.sem) (SemLoc.dma cc0_scoped177.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped176.sem) (SemLoc.dma cc0_scoped177.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn2, %hWe2, HO⟩
  ihave Ha := (ex_eq (fun f => (mIa).view.loc (thr L d) ↦{fullShare} f) _) $$ Ha
  icases Ha with ⟨%fan2, %hfa2, Ha⟩
  ihave Hb := (ex_eq (fun f => (mIb).view.loc (thr L d) ↦{fullShare} f) _) $$ Hb
  icases Hb with ⟨%fbn2, %hfb2, Hb⟩
  have hWn2 : ∀ p ∈ Wn2, p ∈ W ∨ p.2 = none := by rw [hWe2]; exact waits_dite hWn1 _ _ _
  have hidx2 : IdxOK (F := F) L d 22 (by decide) (k0_t133_loop L).trips fx fan2 fbn2 :=
    idx_ok (F := F) L d 22 (by decide) _ _ fx _ _ _ fan2 _ fbn2 hfa2 hfb2
      (fun h0 => (field_guard_iff (L 0).val (L 1).val 22 hcL hsL (by decide)).2 (by have := t133_trips L; unfold wid at this; omega))
      (hfetch 22 (by decide) fx) hrw1 hrw2
  clear hfa2 hfb2 hWe2

  -- field 22: its loop over the tile's rows of the field, then the remainder loop, which has no trip
  have htr3 : (k0_t133_loop L).trips = dhi (wid L) 22 - dlo (wid L) 22 := t133_trips L
  ihave Hsems := (Entails.of_eq (sems_take3 (F := F) L d (SemLoc.dma cc0_scoped178.sem) (SemLoc.dma cc0_scoped179.sem) (SemLoc.dma cc0_scoped180.sem) (by decide +revert) (by decide +revert) (by decide +revert) (by decide +revert) (by decide +revert) (by decide +revert))) $$ Hsems
  icases Hsems with ⟨⟨HsC, HsD, HsE⟩, Hsems⟩
  iapply (hD.r22 _ _ _ _ _ _ _ _ O W Wn2 q fx (tT ⟨22, by decide⟩) _ _ fan2 fbn2 gn1
    hWn2 hpre hidx2)
  isplitl [Hmw]; · iexact Hmw
  isplitl [Ht23]; · iexact Ht23
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc3 %fr3 %fo3 %gn3 %Wn3 %hg3 %hWn3 Hmw Ht23 Hr Ho Ha Hb Hg HsC HsD HsE HO
  ihave Hsems := (Entails.of_eq (sems_take3 (F := F) L d (SemLoc.dma cc0_scoped178.sem) (SemLoc.dma cc0_scoped179.sem) (SemLoc.dma cc0_scoped180.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn3 : Agree (F := F) (Cert.Spec.lo (wid L)) (Cert.Spec.hi (wid L)) (Cert.Spec.outT fx tT) gn3 (22 + 1) :=
    agree_step htr3 hAn1 hg3 (fun x hx => outT_field fx tT 22 (by decide) x hx)
  clear hg3
  sl_exec
  sl_for0 (t136_trips L)

  -- field 23, the piece's last: its index row is fetched when the field has a row of the tile's; the piece returns right
  -- after, so the two cases of the guard are run apart
  have htrE4 : (k0_t139_loop L).trips = dhi (wid L) 23 - dlo (wid L) 23 := t139_trips L
  ihave Hsems := (Entails.of_eq (sems_take2 (F := F) L d (SemLoc.dma cc0_scoped184.sem) (SemLoc.dma cc0_scoped185.sem) (by decide +revert) (by decide +revert) (by decide +revert))) $$ Hsems
  icases Hsems with ⟨⟨HsA, HsB⟩, Hsems⟩
  rcases Nat.lt_or_ge (dlo (wid L) 23) (dhi (wid L) 23) with hlt4 | hge4
  · have hgd4 := (field_guard_iff (L 0).val (L 1).val 23 hcL hsL (by decide)).2 hlt4
    sl_exec (disch := sl_exact hgd4)
    ihave Hsems := (Entails.of_eq (sems_take2 (F := F) L d (SemLoc.dma cc0_scoped184.sem) (SemLoc.dma cc0_scoped185.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn4, %hWe4, HO⟩
    ihave Ha := (ex_eq (fun f => (mIa).view.loc (thr L d) ↦{fullShare} f) _) $$ Ha
    icases Ha with ⟨%fan4, %hfa4, Ha⟩
    ihave Hb := (ex_eq (fun f => (mIb).view.loc (thr L d) ↦{fullShare} f) _) $$ Hb
    icases Hb with ⟨%fbn4, %hfb4, Hb⟩
    have hWn4 : ∀ p ∈ Wn4, p ∈ W ∨ p.2 = none := by rw [hWe4]; exact waits_ins hWn3 _ _
    have hidx4 : IdxOK (F := F) L d 23 (by decide) (k0_t139_loop L).trips fx fan4 fbn4 :=
      idx_ok_pos (F := F) L d 23 (by decide) _ fx _ _ _ fan4 _ fbn4 hfa4 hfb4 (hfetch 23 (by decide) fx) hrw1 hrw2
    iapply (hk Wn4 gn3 fan4 fbn4 hWn4 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng4 := mt (field_guard_iff (L 0).val (L 1).val 23 hcL hsL (by decide)).1 (Nat.not_lt.2 hge4)
    sl_exec (disch := sl_exact hng4)
    ihave Hsems := (Entails.of_eq (sems_take2 (F := F) L d (SemLoc.dma cc0_scoped184.sem) (SemLoc.dma cc0_scoped185.sem) (by decide +revert) (by decide +revert) (by decide +revert)).symm) $$ [HsA HsB Hsems]
    · isplitr [Hsems]
      · isplitl [HsA]
        · iexact HsA
        · iexact HsB
      · iexact Hsems
    have hidx4 : IdxOK (F := F) L d 23 (by decide) (k0_t139_loop L).trips fx fan2 fbn2 :=
      fun h0 => absurd h0 (by rw [htrE4]; omega)
    iapply (hk Wn3 gn3 fan2 fbn2 hWn3 hAn3 hidx4)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTopBits
-- ==== Proof.BodyTopP377Bits.lean ====
/-
  Piece 12 of the tile's function (the loops of field 23, the fetch of field 24, the loops of field 24, the fetch of field 25), as a rule for the piece at the head of
  a program: from the tile's rows holding the specification's values below the piece's first field to the same below its
  last field's successor, everything else the tile holds unchanged.
-/
import proofs.«204037_g66941360275737_cont_sun_c4_657_24_alg».proof.Proof.BodyTopEndBits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

set_option maxHeartbeats 40000000 in
/-- Piece 12 of the tile's function: from the invariant below field 23 to the invariant below field 25, field 25's index row fetched. -/
theorem part377_spec (hD : DRules (F := F) L d defs) {α : Type} (kk : (Σ' (v441 : BitVec 32) (c0_i32_270 : BitVec 32) (v448 : BitVec 32), BitVec 32) → PT (F := F) L α) (Q : α → sProp 𝕄)
    (O : CellTallies nD τ sig (HIx 1)) (W Wc : Waits sig (HIx 1)) (q : PosShare TreeShare)
    (fx : S26x16384.Idx → BitVec 32) (tT : Fin 26 → S36x100000.Idx → Elt F .f32) (hpre : ∀ y, (fx y).toNat < 100000)
    (g : Buf (Elt F) ((mO).view.loc (thr L d))) (fa : Buf (Elt F) ((mIa).view.loc (thr L d))) (fb : Buf (Elt F) ((mIb).view.loc (thr L d)))
    (hWc : ∀ p ∈ Wc, p ∈ W ∨ p.2 = none) (hA : Agree (F := F) (Cert.Spec.lo (wid L)) (Cert.Spec.hi (wid L)) (Cert.Spec.outT fx tT) g 23)
    (hidxIn : IdxOK (F := F) L d 23 (by decide) (k0_t139_loop L).trips fx fa fb)
    (p : PT (F := F) L α) (hp : p = (k0_part377 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 (loW (cW L) (sW L)) (hiW (cW L) (sW L)) (Scalar.minsi 36#32 (Scalar.maxsi 0#32 (Scalar.subi (loW (cW L) (sW L)) 828#32))) (Scalar.minsi 36#32 (Scalar.maxsi 0#32 (Scalar.subi (hiW (cW L) (sW L)) 828#32))) >>= kk))
    (hk : ∀ Wc' g' fa' fb', (∀ p ∈ Wc', p ∈ W ∨ p.2 = none) → Agree (F := F) (Cert.Spec.lo (wid L)) (Cert.Spec.hi (wid L)) (Cert.Spec.outT fx tT) g' 25 → IdxOK (F := F) L d 25 (by decide) (k0_t151_loop L).trips fx fa' fb' →
      TRes (F := F) L d O Wc' q fx tT g' fa' fb' ⊢ wp frame (wpE defs Variants.none (thr L d) none) Set.univ (kk ⟨(Scalar.minsi 36#32 (Scalar.maxsi 0#32 (Scalar.subi (loW (cW L) (sW L)) 900#32))), 0#32, (Scalar.subi (Scalar.minsi 36#32 (Scalar.maxsi 0#32 (Scalar.subi (hiW (cW L) (sW L)) 900#32))) (Scalar.minsi 36#32 (Scalar.maxsi 0#32 (Scalar.subi (loW (cW L) (sW L)) 900#32)))), 1#32⟩) Q) :
    TRes (F := F) L d O Wc q fx tT g fa fb ⊢ wp frame (wpE defs Variants.none (thr L d) none) Set.univ p Q := by
  rw [hp]
  unfold TRes
  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%fr, Hr⟩, ⟨%fo, Ho⟩, Ha, Hb, Hg, Hsems, HO⟩
  have hcL : (L 0).val < 2 := (L 0).isLt
  have hsL : (L 1).val < 16 := (L 1).isLt
  have hfetch := fun (j : ℕ) (hj : j < 26) (fx : S26x16384.Idx → BitVec 32) (off : ℕ) (hoff : off + 8192 ≤ 16384) (inb : ∀ a, (![j, off] : Fin 2 → ℕ) a + S1x8192.size a ≤ S26x16384.size a) (b : ℕ) (hb : b < 8192) => Cert.Proof.BodyFetchBits.fetch_read (F := F) j hj off hoff inb fx b hb
  have hrw1 := Cert.Proof.BodyFetchBits.read_write_whole1 (F := F) d ((L 0).castLE hcore0) ((L 1).castLE hsub0)
  have hrw2 := Cert.Proof.BodyFetchBits.read_write_whole2 (F := F) d ((L 0).castLE hcore0) ((L 1).castLE hsub0)
  rw [Gen.k0_part377_eq_skeleton]
  unfold Gen.k0_part377_skel

  -- field 23: its loop over the tile's rows of the field, then the remainder loop, which has no trip
  try sl_exec
  irw [Prog.bind_assoc]
  have htr0 : (k0_t139_loop L).trips = dhi (wid L) 23 - dlo (wid L) 23 := t139_trips L
  ihave Hsems := (Entails.of_eq (sems_take3 (F := F) L d (SemLoc.dma cc0_scoped186.sem) (SemLoc.dma cc0_scoped187.sem) (SemLoc.dma cc0_scoped188.sem) (by decide +revert) (by decide +revert) (by decide +revert) (by decide +revert) (by decide +revert) (by decide +revert))) $$ Hsems
  icases Hsems with ⟨⟨HsC, HsD, HsE⟩, Hsems⟩
  iapply (hD.r23 _ _ _ _ _ _ O W Wc q fx (tT ⟨23, by decide⟩) _ _ fa fb g
    hWc hpre hidxIn)
  isplitl [Hmw]; · iexact Hmw
  isplitl [Ht24]; · iexact Ht24
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc0 %fr0 %fo0 %gn0 %Wn0 %hg0 %hWn0 Hmw Ht24 Hr Ho Ha Hb Hg HsC HsD HsE HO
  ihave Hsems := (Entails.of_eq (sems_take3 (F := F) L d (SemLoc.dma cc0_scoped186.sem) (SemLoc.dma cc0_scoped187.sem) (SemLoc.dma cc0_scoped188.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn0 : Agree (F := F) (Cert.Spec.lo (wid L)) (Cert.Spec.hi (wid L)) (Cert.Spec.outT fx tT) gn0 (23 + 1) :=
    agree_step htr0 hA hg0 (fun x hx => outT_field fx tT 23 (by decide) x hx)
  clear hg0
  first | sl_for0 (t142_trips L) | (irw [Prog.bind_assoc]; sl_for0 (t142_trips L)) | (sl_exec; sl_for0 (t142_trips L))

  -- field 24: its index row is fetched when the field has a row of the tile's
  ihave Hsems := (Entails.of_eq (sems_take2 (F := F) L d (SemLoc.dma cc0_scoped192.sem) (SemLoc.dma cc0_scoped193.sem) (by decide +revert) (by decide +revert) (by decide +revert))) $$ Hsems
  icases Hsems with ⟨⟨HsA, HsB⟩, Hsems⟩
  sl_exec
  ihave Hsems := (Entails.of_eq (sems_take2 (F := F) L d (SemLoc.dma cc0_scoped192.sem) (SemLoc.dma cc0_scoped193.sem) (by decide +revert) (by decide +revert) (by decide +revert)).symm) $$ [HsA HsB Hsems]
  · isplitr [Hsems]
    · isplitl [HsA]
      · iexact HsA
      · iexact HsB
    · iexact Hsems
  ihave HO := (ex_eq (fun Wx => owes (thr L d) O Wx) _) $$ HO
  icases HO with ⟨%Wn1, %hWe1, HO⟩
  ihave Ha := (ex_eq (fun f => (mIa).view.loc (thr L d) ↦{fullShare} f) _) $$ Ha
  icases Ha with ⟨%fan1, %hfa1, Ha⟩
  ihave Hb := (ex_eq (fun f => (mIb).view.loc (thr L d) ↦{fullShare} f) _) $$ Hb
  icases Hb with ⟨%fbn1, %hfb1, Hb⟩
  have hWn1 : ∀ p ∈ Wn1, p ∈ W ∨ p.2 = none := by rw [hWe1]; exact waits_dite hWn0 _ _ _
  have hidx1 : IdxOK (F := F) L d 24 (by decide) (k0_t145_loop L).trips fx fan1 fbn1 :=
    idx_ok (F := F) L d 24 (by decide) _ _ fx _ _ _ fan1 _ fbn1 hfa1 hfb1
      (fun h0 => (field_guard_iff (L 0).val (L 1).val 24 hcL hsL (by decide)).2 (by have := t145_trips L; unfold wid at this; omega))
      (hfetch 24 (by decide) fx) hrw1 hrw2
  clear hfa1 hfb1 hWe1

  -- field 24: its loop over the tile's rows of the field, then the remainder loop, which has no trip
  have htr2 : (k0_t145_loop L).trips = dhi (wid L) 24 - dlo (wid L) 24 := t145_trips L
  ihave Hsems := (Entails.of_eq (sems_take3 (F := F) L d (SemLoc.dma cc0_scoped194.sem) (SemLoc.dma cc0_scoped195.sem) (SemLoc.dma cc0_scoped196.sem) (by decide +revert) (by decide +revert) (by decide +revert) (by decide +revert) (by decide +revert) (by decide +revert))) $$ Hsems
  icases Hsems with ⟨⟨HsC, HsD, HsE⟩, Hsems⟩
  iapply (hD.r24 _ _ _ _ _ _ _ O W Wn1 q fx (tT ⟨24, by decide⟩) _ _ fan1 fbn1 gn0
    hWn1 hpre hidx1)
  isplitl [Hmw]; · iexact Hmw
  isplitl [Ht25]; · iexact Ht25
  isplitl [Hr]; · iexact Hr
  isplitl [Ho]; · iexact Ho
  isplitl [Ha]; · iexact Ha
  isplitl [Hb]; · iexact Hb
  isplitl [Hg]; · iexact Hg
  isplitl [HsC]; · iexact HsC
  isplitl [HsD]; · iexact HsD
  isplitl [HsE]; · iexact HsE
  isplitl [HO]; · iexact HO
  iintro %acc2 %fr2 %fo2 %gn2 %Wn2 %hg2 %hWn2 Hmw Ht25 Hr Ho Ha Hb Hg HsC HsD HsE HO
  ihave Hsems := (Entails.of_eq (sems_take3 (F := F) L d (SemLoc.dma cc0_scoped194.sem) (SemLoc.dma cc0_scoped195.sem) (SemLoc.dma cc0_scoped196.sem) (by decide +revert) (by decide +revert) (by decide +revert) (by decide +revert) (by decide +revert) (by decide +revert)).symm) $$ [HsC HsD HsE Hsems]
  · isplitr [Hsems]
    · isplitl [HsC]
      · iexact HsC
      · isplitl [HsD]
        · iexact HsD
        · iexact HsE
    · iexact Hsems
  have hAn2 : Agree (F := F) (Cert.Spec.lo (wid L)) (Cert.Spec.hi (wid L)) (Cert.Spec.outT fx tT) gn2 (24 + 1) :=
    agree_step htr2 hAn0 hg2 (fun x hx => outT_field fx tT 24 (by decide) x hx)
  clear hg2
  sl_exec
  sl_for0 (t148_trips L)

  -- field 25, the piece's last: its index row is fetched when the field has a row of the tile's; the piece returns right
  -- after, so the two cases of the guard are run apart
  have htrE3 : (k0_t151_loop L).trips = dhi (wid L) 25 - dlo (wid L) 25 := t151_trips L
  ihave Hsems := (Entails.of_eq (sems_take2 (F := F) L d (SemLoc.dma cc0_scoped200.sem) (SemLoc.dma cc0_scoped201.sem) (by decide +revert) (by decide +revert) (by decide +revert))) $$ Hsems
  icases Hsems with ⟨⟨HsA, HsB⟩, Hsems⟩
  rcases Nat.lt_or_ge (dlo (wid L) 25) (dhi (wid L) 25) with hlt3 | hge3
  · have hgd3 := (field_guard_iff (L 0).val (L 1).val 25 hcL hsL (by decide)).2 hlt3
    sl_exec (disch := sl_exact hgd3)
    ihave Hsems := (Entails.of_eq (sems_take2 (F := F) L d (SemLoc.dma cc0_scoped200.sem) (SemLoc.dma cc0_scoped201.sem) (by decide +revert) (by decide +revert) (by decide +revert)).symm) $$ [HsA HsB Hsems]
    · isplitr [Hsems]
      · isplitl [HsA]
        · iexact HsA
        · iexact HsB
      · iexact Hsems
    ihave HO := (ex_eq (fun Wx => owes (thr L d) O Wx) _) $$ HO
    icases HO with ⟨%Wn3, %hWe3, HO⟩
    ihave Ha := (ex_eq (fun f => (mIa).view.loc (thr L d) ↦{fullShare} f) _) $$ Ha
    icases Ha with ⟨%fan3, %hfa3, Ha⟩
    ihave Hb := (ex_eq (fun f => (mIb).view.loc (thr L d) ↦{fullShare} f) _) $$ Hb
    icases Hb with ⟨%fbn3, %hfb3, Hb⟩
    have hWn3 : ∀ p ∈ Wn3, p ∈ W ∨ p.2 = none := by rw [hWe3]; exact waits_ins hWn2 _ _
    have hidx3 : IdxOK (F := F) L d 25 (by decide) (k0_t151_loop L).trips fx fan3 fbn3 :=
      idx_ok_pos (F := F) L d 25 (by decide) _ fx _ _ _ fan3 _ fbn3 hfa3 hfb3 (hfetch 25 (by decide) fx) hrw1 hrw2
    iapply (hk Wn3 gn2 fan3 fbn3 hWn3 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO
  · have hng3 := mt (field_guard_iff (L 0).val (L 1).val 25 hcL hsL (by decide)).1 (Nat.not_lt.2 hge3)
    sl_exec (disch := sl_exact hng3)
    ihave Hsems := (Entails.of_eq (sems_take2 (F := F) L d (SemLoc.dma cc0_scoped200.sem) (SemLoc.dma cc0_scoped201.sem) (by decide +revert) (by decide +revert) (by decide +revert)).symm) $$ [HsA HsB Hsems]
    · isplitr [Hsems]
      · isplitl [HsA]
        · iexact HsA
        · iexact HsB
      · iexact Hsems
    have hidx3 : IdxOK (F := F) L d 25 (by decide) (k0_t151_loop L).trips fx fan1 fbn1 :=
      fun h0 => absurd h0 (by rw [htrE3]; omega)
    iapply (hk Wn2 gn2 fan1 fbn1 hWn2 hAn2 hidx3)
    unfold TRes
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexact Ha
    isplitl [Hb]; · iexact Hb
    isplitl [Hg]; · iexact Hg
    isplitl [Hsems]; · iexact Hsems
    iexact HO

end Cert.Proof.BodyTopBits
-- ==== Proof.BodyTopBits.lean ====
/-
  The tile's whole function: the twelve pieces in sequence, the last field's loops, the return.
-/
import proofs.«204037_g66941360275737_cont_sun_c4_657_24_alg».proof.Proof.BodyTopP366Bits
import proofs.«204037_g66941360275737_cont_sun_c4_657_24_alg».proof.Proof.BodyTopP367Bits
import proofs.«204037_g66941360275737_cont_sun_c4_657_24_alg».proof.Proof.BodyTopP368Bits
import proofs.«204037_g66941360275737_cont_sun_c4_657_24_alg».proof.Proof.BodyTopP369Bits
import proofs.«204037_g66941360275737_cont_sun_c4_657_24_alg».proof.Proof.BodyTopP370Bits
import proofs.«204037_g66941360275737_cont_sun_c4_657_24_alg».proof.Proof.BodyTopP371Bits
import proofs.«204037_g66941360275737_cont_sun_c4_657_24_alg».proof.Proof.BodyTopP372Bits
import proofs.«204037_g66941360275737_cont_sun_c4_657_24_alg».proof.Proof.BodyTopP373Bits
import proofs.«204037_g66941360275737_cont_sun_c4_657_24_alg».proof.Proof.BodyTopP374Bits
import proofs.«204037_g66941360275737_cont_sun_c4_657_24_alg».proof.Proof.BodyTopP375Bits
import proofs.«204037_g66941360275737_cont_sun_c4_657_24_alg».proof.Proof.BodyTopP376Bits
import proofs.«204037_g66941360275737_cont_sun_c4_657_24_alg».proof.Proof.BodyTopP377Bits
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyTopBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀

variable {F : FTy → Type} [FloatOps F]

local notation "𝕄" => MT nD τ sig (HIx 1) (Elt F) ℕ UU ℕ

open Cert.UnitArith Cert.Kernel.UnitArithK

variable (L : grid0.Coords) (d : Dev nD) (defs : Defs nD τ sig (Elt F) Λ₀)

/-- The first piece only computes the tile's range: its first and one-past-last row, as words. -/
theorem part365_eq : k0_part365 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 = pure ⟨(loW (cW L) (sW L)), (hiW (cW L) (sW L)), 0#32⟩ := rfl

set_option maxHeartbeats 40000000 in
/-- The tile's function on its tile's share: the rows it owns end at the specification's values. -/
theorem tile_run (hD : DRules (F := F) L d defs) (O : CellTallies nD τ sig (HIx 1)) (W : Waits sig (HIx 1)) (q : PosShare TreeShare)
    (fx : S26x16384.Idx → BitVec 32) (tT : Fin 26 → S36x100000.Idx → Elt F .f32)
    (g0 : Buf (Elt F) ((mO).view.loc (thr L d)))
    (hpre : ∀ y, (fx y).toNat < 100000)
    (p : PT (F := F) L PUnit) (hp : p = cc0__encode (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207) :
    (iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ (∃ f, ((mIa).view.loc (thr L d) ↦{fullShare} f)) ∗ (∃ f, ((mIb).view.loc (thr L d) ↦{fullShare} f))
        ∗ ((mO).view.loc (thr L d) ↦[rowsSet (Cert.Spec.lo (wid L)) (Cert.Spec.hi (wid L))]{fullShare} g0)
        ∗ (SparseCore.Cfg.ownSems0 (thr L d) : sProp 𝕄)
        ∗ owes (thr L d) O W) : sProp 𝕄)
      ⊢ wp frame (wpE defs Variants.none (thr L d) none) Set.univ p
          fun _ => iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ (∃ f, ((mIa).view.loc (thr L d) ↦{fullShare} f)) ∗ (∃ f, ((mIb).view.loc (thr L d) ↦{fullShare} f))
        ∗ (∃ g, ((mO).view.loc (thr L d) ↦[rowsSet (Cert.Spec.lo (wid L)) (Cert.Spec.hi (wid L))]{fullShare} g)
            ∗ ⌜∀ x ∈ rowsSet (Cert.Spec.lo (wid L)) (Cert.Spec.hi (wid L)), g x = Cert.Spec.outT fx tT x⌝)
        ∗ (SparseCore.Cfg.ownSems0 (thr L d) : sProp 𝕄)
        ∗ ∃ W', ⌜∀ p ∈ W', p ∈ W ∨ p.2 = none⌝ ∗ owes (thr L d) O W') := by
  have hW0 : ∀ p ∈ W, p ∈ W ∨ p.2 = none := fun p hp => Or.inl hp
  have hA0 := agree_zero (F := F) (Cert.Spec.lo (wid L)) (Cert.Spec.hi (wid L)) (Cert.Spec.outT fx tT) g0
  have hcL : (L 0).val < 2 := (L 0).isLt
  have hsL : (L 1).val < 16 := (L 1).isLt
  -- the twelve pieces in sequence, each from the bundle the one before leaves
  have chain : ∀ (fa : Buf (Elt F) ((mIa).view.loc (thr L d))) (fb : Buf (Elt F) ((mIb).view.loc (thr L d))),
      TRes (F := F) L d O W q fx tT g0 fa fb ⊢ wp frame (wpE defs Variants.none (thr L d) none) Set.univ p
          fun _ => iprop(Transfers.MayWaits (thr L d) (none : HIx 1) O
        ∗ ((mX).view.loc (thr L d) ↦{q} fx) ∗ (((Memref.whole main_v1_scv : Memref sig .scVector .hbm S36x100000 .f32)).view.loc (thr L d) ↦{q} (tT ⟨0, by decide⟩)) ∗ (((Memref.whole main_v2_scv : Memref sig .scVector .hbm S36x100000 .f32)).view.loc (thr L d) ↦{q} (tT ⟨1, by decide⟩)) ∗ (((Memref.whole main_v3_scv : Memref sig .scVector .hbm S36x100000 .f32)).view.loc (thr L d) ↦{q} (tT ⟨2, by decide⟩)) ∗ (((Memref.whole main_v4_scv : Memref sig .scVector .hbm S36x100000 .f32)).view.loc (thr L d) ↦{q} (tT ⟨3, by decide⟩)) ∗ (((Memref.whole main_v5_scv : Memref sig .scVector .hbm S36x100000 .f32)).view.loc (thr L d) ↦{q} (tT ⟨4, by decide⟩)) ∗ (((Memref.whole main_v6_scv : Memref sig .scVector .hbm S36x100000 .f32)).view.loc (thr L d) ↦{q} (tT ⟨5, by decide⟩)) ∗ (((Memref.whole main_v7_scv : Memref sig .scVector .hbm S36x100000 .f32)).view.loc (thr L d) ↦{q} (tT ⟨6, by decide⟩)) ∗ (((Memref.whole main_v8_scv : Memref sig .scVector .hbm S36x100000 .f32)).view.loc (thr L d) ↦{q} (tT ⟨7, by decide⟩)) ∗ (((Memref.whole main_v9_scv : Memref sig .scVector .hbm S36x100000 .f32)).view.loc (thr L d) ↦{q} (tT ⟨8, by decide⟩)) ∗ (((Memref.whole main_v10_scv : Memref sig .scVector .hbm S36x100000 .f32)).view.loc (thr L d) ↦{q} (tT ⟨9, by decide⟩)) ∗ (((Memref.whole main_v11_scv : Memref sig .scVector .hbm S36x100000 .f32)).view.loc (thr L d) ↦{q} (tT ⟨10, by decide⟩)) ∗ (((Memref.whole main_v12_scv : Memref sig .scVector .hbm S36x100000 .f32)).view.loc (thr L d) ↦{q} (tT ⟨11, by decide⟩)) ∗ (((Memref.whole main_v13_scv : Memref sig .scVector .hbm S36x100000 .f32)).view.loc (thr L d) ↦{q} (tT ⟨12, by decide⟩)) ∗ (((Memref.whole main_v14_scv : Memref sig .scVector .hbm S36x100000 .f32)).view.loc (thr L d) ↦{q} (tT ⟨13, by decide⟩)) ∗ (((Memref.whole main_v15_scv : Memref sig .scVector .hbm S36x100000 .f32)).view.loc (thr L d) ↦{q} (tT ⟨14, by decide⟩)) ∗ (((Memref.whole main_v16_scv : Memref sig .scVector .hbm S36x100000 .f32)).view.loc (thr L d) ↦{q} (tT ⟨15, by decide⟩)) ∗ (((Memref.whole main_v17_scv : Memref sig .scVector .hbm S36x100000 .f32)).view.loc (thr L d) ↦{q} (tT ⟨16, by decide⟩)) ∗ (((Memref.whole main_v18_scv : Memref sig .scVector .hbm S36x100000 .f32)).view.loc (thr L d) ↦{q} (tT ⟨17, by decide⟩)) ∗ (((Memref.whole main_v19_scv : Memref sig .scVector .hbm S36x100000 .f32)).view.loc (thr L d) ↦{q} (tT ⟨18, by decide⟩)) ∗ (((Memref.whole main_v20_scv : Memref sig .scVector .hbm S36x100000 .f32)).view.loc (thr L d) ↦{q} (tT ⟨19, by decide⟩)) ∗ (((Memref.whole main_v21_scv : Memref sig .scVector .hbm S36x100000 .f32)).view.loc (thr L d) ↦{q} (tT ⟨20, by decide⟩)) ∗ (((Memref.whole main_v22_scv : Memref sig .scVector .hbm S36x100000 .f32)).view.loc (thr L d) ↦{q} (tT ⟨21, by decide⟩)) ∗ (((Memref.whole main_v23_scv : Memref sig .scVector .hbm S36x100000 .f32)).view.loc (thr L d) ↦{q} (tT ⟨22, by decide⟩)) ∗ (((Memref.whole main_v24_scv : Memref sig .scVector .hbm S36x100000 .f32)).view.loc (thr L d) ↦{q} (tT ⟨23, by decide⟩)) ∗ (((Memref.whole main_v25_scv : Memref sig .scVector .hbm S36x100000 .f32)).view.loc (thr L d) ↦{q} (tT ⟨24, by decide⟩)) ∗ (((Memref.whole main_v26_scv : Memref sig .scVector .hbm S36x100000 .f32)).view.loc (thr L d) ↦{q} (tT ⟨25, by decide⟩))
        ∗ (∃ f, ((mRow).view.loc (thr L d) ↦{fullShare} f)) ∗ (∃ f, ((mOch).view.loc (thr L d) ↦{fullShare} f)) ∗ (∃ f, ((mIa).view.loc (thr L d) ↦{fullShare} f)) ∗ (∃ f, ((mIb).view.loc (thr L d) ↦{fullShare} f))
        ∗ (∃ g, ((mO).view.loc (thr L d) ↦[rowsSet (Cert.Spec.lo (wid L)) (Cert.Spec.hi (wid L))]{fullShare} g)
            ∗ ⌜∀ x ∈ rowsSet (Cert.Spec.lo (wid L)) (Cert.Spec.hi (wid L)), g x = Cert.Spec.outT fx tT x⌝)
        ∗ (SparseCore.Cfg.ownSems0 (thr L d) : sProp 𝕄)
        ∗ ∃ W', ⌜∀ p ∈ W', p ∈ W ∨ p.2 = none⌝ ∗ owes (thr L d) O W') := by
    intro fa fb
    rw [hp]
    rw [Gen.cc0__encode_eq_skeleton]
    unfold Gen.cc0__encode_skel
    rw [part365_eq]
    dsimp only [Prog.pure_eq_ret, Prog.bind_ret]
    -- piece 1
    generalize hp100 : (Bind.bind (k0_part366 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _) _) = p100
    refine part366_spec (F := F) L d defs hD _ _ O W W q fx tT hpre g0 fa fb hW0 hA0 p100 hp100.symm ?_
    intro Wn100 gn100 fan100 fbn100 hWn100 hAn100
    clear hp100 p100
    try dsimp only
    -- piece 2
    generalize hp101 : (Bind.bind (k0_part367 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p101
    refine part367_spec (F := F) L d defs hD _ _ O W Wn100 q fx tT hpre gn100 fan100 fbn100 hWn100 hAn100 p101 hp101.symm ?_
    intro Wn101 gn101 fan101 fbn101 hWn101 hAn101
    clear hp101 p101
    try dsimp only
    -- piece 3
    generalize hp102 : (Bind.bind (k0_part368 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p102
    refine part368_spec (F := F) L d defs hD _ _ O W Wn101 q fx tT hpre gn101 fan101 fbn101 hWn101 hAn101 p102 hp102.symm ?_
    intro Wn102 gn102 fan102 fbn102 hWn102 hAn102
    clear hp102 p102
    try dsimp only
    -- piece 4
    generalize hp103 : (Bind.bind (k0_part369 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p103
    refine part369_spec (F := F) L d defs hD _ _ O W Wn102 q fx tT hpre gn102 fan102 fbn102 hWn102 hAn102 p103 hp103.symm ?_
    intro Wn103 gn103 fan103 fbn103 hWn103 hAn103 hidx103
    clear hp103 p103
    try dsimp only
    -- piece 5
    generalize hp104 : (Bind.bind (k0_part370 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p104
    refine part370_spec (F := F) L d defs hD _ _ O W Wn103 q fx tT hpre gn103 fan103 fbn103 hWn103 hAn103 hidx103 p104 hp104.symm ?_
    intro Wn104 gn104 fan104 fbn104 hWn104 hAn104 hidx104
    clear hp104 p104
    try dsimp only
    -- piece 6
    generalize hp105 : (Bind.bind (k0_part371 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _ _) _) = p105
    refine part371_spec (F := F) L d defs hD _ _ O W Wn104 q fx tT hpre gn104 fan104 fbn104 hWn104 hAn104 hidx104 p105 hp105.symm ?_
    intro Wn105 gn105 fan105 fbn105 hWn105 hAn105 hidx105
    clear hp105 p105
    try dsimp only
    -- piece 7
    generalize hp106 : (Bind.bind (k0_part372 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _ _) _) = p106
    refine part372_spec (F := F) L d defs hD _ _ O W Wn105 q fx tT hpre gn105 fan105 fbn105 hWn105 hAn105 hidx105 p106 hp106.symm ?_
    intro Wn106 gn106 fan106 fbn106 hWn106 hAn106
    clear hp106 p106
    try dsimp only
    -- piece 8
    generalize hp107 : (Bind.bind (k0_part373 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _) _) = p107
    refine part373_spec (F := F) L d defs hD _ _ O W Wn106 q fx tT hpre gn106 fan106 fbn106 hWn106 hAn106 p107 hp107.symm ?_
    intro Wn107 gn107 fan107 fbn107 hWn107 hAn107
    clear hp107 p107
    try dsimp only
    -- piece 9
    generalize hp108 : (Bind.bind (k0_part374 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p108
    refine part374_spec (F := F) L d defs hD _ _ O W Wn107 q fx tT hpre gn107 fan107 fbn107 hWn107 hAn107 p108 hp108.symm ?_
    intro Wn108 gn108 fan108 fbn108 hWn108 hAn108
    clear hp108 p108
    try dsimp only
    -- piece 10
    generalize hp109 : (Bind.bind (k0_part375 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p109
    refine part375_spec (F := F) L d defs hD _ _ O W Wn108 q fx tT hpre gn108 fan108 fbn108 hWn108 hAn108 p109 hp109.symm ?_
    intro Wn109 gn109 fan109 fbn109 hWn109 hAn109
    clear hp109 p109
    try dsimp only
    -- piece 11
    generalize hp110 : (Bind.bind (k0_part376 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _ _) _) = p110
    refine part376_spec (F := F) L d defs hD _ _ O W Wn109 q fx tT hpre gn109 fan109 fbn109 hWn109 hAn109 p110 hp110.symm ?_
    intro Wn110 gn110 fan110 fbn110 hWn110 hAn110 hidx110
    clear hp110 p110
    try dsimp only
    -- piece 12
    generalize hp111 : (Bind.bind (k0_part377 (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 _ _ _ _) _) = p111
    refine part377_spec (F := F) L d defs hD _ _ O W Wn110 q fx tT hpre gn110 fan110 fbn110 hWn110 hAn110 hidx110 p111 hp111.symm ?_
    intro Wn111 gn111 fan111 fbn111 hWn111 hAn111 hidx111
    clear hp111 p111
    try dsimp only
    -- field 25's loops and the return
    unfold TRes
    iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, ⟨%frz, Hr⟩, ⟨%foz, Ho⟩, Ha, Hb, Hg, Hsems, HO⟩

    -- field 25: its loop over the tile's rows of the field, then the remainder loop, which has no trip
    sl_exec
    have htr112 : (k0_t151_loop L).trips = dhi (wid L) 25 - dlo (wid L) 25 := t151_trips L
    ihave Hsems := (Entails.of_eq (sems_take3 (F := F) L d (SemLoc.dma cc0_scoped202.sem) (SemLoc.dma cc0_scoped203.sem) (SemLoc.dma cc0_scoped204.sem) (by decide +revert) (by decide +revert) (by decide +revert) (by decide +revert) (by decide +revert) (by decide +revert))) $$ Hsems
    icases Hsems with ⟨⟨HsC, HsD, HsE⟩, Hsems⟩
    iapply (hD.r25 _ _ _ O W Wn111 q fx (tT ⟨25, by decide⟩) _ _ fan111 fbn111 gn111
      hWn111 hpre hidx111)
    isplitl [Hmw]; · iexact Hmw
    isplitl [Ht26]; · iexact Ht26
    isplitl [Hr]; · iexact Hr
    isplitl [Ho]; · iexact Ho
    isplitl [Ha]; · iexact Ha
    isplitl [Hb]; · iexact Hb
    isplitl [Hg]; · iexact Hg
    isplitl [HsC]; · iexact HsC
    isplitl [HsD]; · iexact HsD
    isplitl [HsE]; · iexact HsE
    isplitl [HO]; · iexact HO
    iintro %acc112 %fr112 %fo112 %gn112 %Wn112 %hg112 %hWn112 Hmw Ht26 Hr Ho Ha Hb Hg HsC HsD HsE HO
    ihave Hsems := (Entails.of_eq (sems_take3 (F := F) L d (SemLoc.dma cc0_scoped202.sem) (SemLoc.dma cc0_scoped203.sem) (SemLoc.dma cc0_scoped204.sem) (by decide +revert) (by decide +revert) (by decide +revert) (by decide +revert) (by decide +revert) (by decide +revert)).symm) $$ [HsC HsD HsE Hsems]
    · isplitr [Hsems]
      · isplitl [HsC]
        · iexact HsC
        · isplitl [HsD]
          · iexact HsD
          · iexact HsE
      · iexact Hsems
    have hAn112 : Agree (F := F) (Cert.Spec.lo (wid L)) (Cert.Spec.hi (wid L)) (Cert.Spec.outT fx tT) gn112 (25 + 1) :=
      agree_step htr112 hAn111 hg112 (fun x hx => outT_field fx tT 25 (by decide) x hx)
    clear hg112
    sl_exec
    sl_for0 (t154_trips L)
    sl_exec
    sl_step
    isplitl [Hmw]; · iexact Hmw
    isplitl [Hx]; · iexact Hx
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Hr]; · iexists _; iexact Hr
    isplitl [Ho]; · iexists _; iexact Ho
    isplitl [Ha]; · iexists _; iexact Ha
    isplitl [Hb]; · iexists _; iexact Hb
    isplitl [Hg]
    · iexists gn112
      isplitl [Hg]
      · iexact Hg
      · ipureintro
        intro x hx
        exact hAn112 x hx (by have := (mem_rowsSet.1 hx).2; have := Cert.Spec.hi_le (wid L) (wid_lt L); omega)
    isplitl [Hsems]; · iexact Hsems
    iexists Wn112
    isplitr
    · ipureintro; exact hWn112
    · iexact HO

  iintro ⟨Hmw, Hx, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Hr, Ho, ⟨%fa, Ha⟩, ⟨%fb, Hb⟩, Hg, Hsems, HO⟩
  iapply (chain fa fb)
  unfold TRes
  isplitl [Hmw]; · iexact Hmw
  isplitl [Hx]; · iexact Hx
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Hr]; · iexact Hr
  isplitl [Ho]; · iexact Ho
  isplitl [Ha]; · iexact Ha
  isplitl [Hb]; · iexact Hb
  isplitl [Hg]; · iexact Hg
  isplitl [Hsems]; · iexact Hsems
  iexact HO

end Cert.Proof.BodyTopBits
-- ==== Proof.BodyRowBits.lean ====
import proofs.«204037_g66941360275737_cont_sun_c4_657_24_alg».proof.Kernel.P03
import Idealize.ShloMosaic.Lib.ValueIdx
import Idealize.ShloMosaic.Lib.SparseCore.Launch
import Idealize.ShloMosaic.Lib.Pipeline.Kit
import Idealize.ShloMosaic.Lib.Tactic

noncomputable section

namespace Cert.Proof.BodyRowBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Shapes1.Facts₀

variable {F : FTy → Type} [FloatOps F] [Facts]

abbrev UH : Type := URounds (GSem nD τ sig) ℕ
abbrev UU : Type := UH × Counters

local notation "𝕄" => MT nD τ sig (HIx 1) (Elt F) ℕ UU ℕ

/-- Row `off 0` of a table, as a vector of 100000 words. -/
abbrev srcRow (tbl : Memref sig .scVector .hbm S36x100000 .f32) (off : Fin 2 → Nat) (inb : ∀ a, off a + S1x100000.size a ≤ S36x100000.size a) :
    Memref sig .scVector .hbm S100000 .f32 :=
  (tbl.slice (Rect.unit (s := S36x100000) off S1x100000.size inb) (fun _ => rfl)).squeeze S100000 squeezes_S1x100000_S100000

/-- Half a row of the output array, as a vector of 8192 words. -/
abbrev dstRow (out : Memref sig .scVector .hbm S936x16384 .f32) (off : Fin 2 → Nat) (inb : ∀ a, off a + S1x8192.size a ≤ S936x16384.size a) :
    Memref sig .scVector .hbm S8192 .f32 :=
  (out.slice (Rect.unit (s := S936x16384) off S1x8192.size inb) (fun _ => rfl)).squeeze S8192 squeezes_S1x8192_S8192

variable (c : Fin τ.nSC) (s : Fin τ.nSub)

/-- One trip of a field's loop over its rows, up to the second output copy's issue: the table row into the row scratch, the first
    half gathered and copied out, the second half gathered and its copy issued. -/
def partProg (tbl : Memref sig .scVector .hbm S36x100000 .f32) (out : Memref sig .scVector .hbm S936x16384 .f32)
    (row : Memref sig .scVector .vmem S100000 .f32) (hrow : row.IsWhole) (och : Memref sig .scVector .vmem S8192 .f32) (hoch : och.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32)) :
    Prog (TpuEff nD τ sig (Elt F) Λ₀ (.scVector c s)) PUnit := do
  let v464_1 : Memref sig .scVector .hbm S1x100000 .f32 := tbl.slice (Rect.unit (s := S36x100000) offT S1x100000.size inbT) (fun _ => rfl)
  let v465_1 : Memref sig .scVector .hbm S100000 .f32 := v464_1.squeeze S100000 squeezes_S1x100000_S100000
  Prog.lift (.enqueueDma v465_1 (.here row) (.dma s1.sem) ((View.wordExact_bits rfl).reshape _ _) hrow.wordExact ⟨Or.inl rfl, trivial⟩)
  let v468_1 : Memref sig .scVector .hbm S1x100000 .f32 := tbl.slice (Rect.unit (s := S36x100000) offT S1x100000.size inbT) (fun _ => rfl)
  let v469_1 : Memref sig .scVector .hbm S100000 .f32 := v468_1.squeeze S100000 squeezes_S1x100000_S100000
  Prog.lift (.waitDma2 s1.sem v469_1 row ((View.wordExact_bits rfl).reshape _ _) hrow.wordExact)
  let v456 : BitVec 32 ← la
  let v464_2 : Memref sig .scVector .hbm S1x8192 .f32 := out.slice (Rect.unit (s := S936x16384) offA S1x8192.size inbA) (fun _ => rfl)
  let v465_2 : Memref sig .scVector .hbm S8192 .f32 := v464_2.squeeze S8192 squeezes_S1x8192_S8192
  Prog.lift (.enqueueDma och (.here v465_2) (.dma s2.sem) hoch.wordExact ((View.wordExact_bits rfl).reshape _ _) ⟨Or.inl rfl, trivial⟩)
  let v468_2 : Memref sig .scVector .hbm S1x8192 .f32 := out.slice (Rect.unit (s := S936x16384) offA S1x8192.size inbA) (fun _ => rfl)
  let v469_2 : Memref sig .scVector .hbm S8192 .f32 := v468_2.squeeze S8192 squeezes_S1x8192_S8192
  Prog.lift (.waitDma2 s2.sem och v469_2 hoch.wordExact ((View.wordExact_bits rfl).reshape _ _))
  let v459 : BitVec 32 ← lb
  let v464_3 : Memref sig .scVector .hbm S1x8192 .f32 := out.slice (Rect.unit (s := S936x16384) offB S1x8192.size inbB) (fun _ => rfl)
  let v465_3 : Memref sig .scVector .hbm S8192 .f32 := v464_3.squeeze S8192 squeezes_S1x8192_S8192
  Prog.lift (.enqueueDma och (.here v465_3) (.dma s3.sem) hoch.wordExact ((View.wordExact_bits rfl).reshape _ _) ⟨Or.inl rfl, trivial⟩)
  pure ⟨⟩

/-- The whole trip: the part above, the second output copy's wait, and the loop's carried word. -/
def tripProg (tbl : Memref sig .scVector .hbm S36x100000 .f32) (out : Memref sig .scVector .hbm S936x16384 .f32)
    (row : Memref sig .scVector .vmem S100000 .f32) (hrow : row.IsWhole) (och : Memref sig .scVector .vmem S8192 .f32) (hoch : och.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32)) :
    Prog (TpuEff nD τ sig (Elt F) Λ₀ (.scVector c s)) (BitVec 32) := do
  partProg (F := F) c s tbl out row hrow och hoch s1 s2 s3 offT inbT offA inbA offB inbB la lb
  let v468_3 : Memref sig .scVector .hbm S1x8192 .f32 := out.slice (Rect.unit (s := S936x16384) offB S1x8192.size inbB) (fun _ => rfl)
  let v469_3 : Memref sig .scVector .hbm S8192 .f32 := v468_3.squeeze S8192 squeezes_S1x8192_S8192
  Prog.lift (.waitDma2 s3.sem och v469_3 hoch.wordExact ((View.wordExact_bits rfl).reshape _ _))
  pure 0#32

variable (defs : Defs nD τ sig (Elt F) Λ₀) (d : Dev nD)

/-- The table row an index word selects (a word outside the table is reduced modulo its length). -/
def rowOf (w : BitVec 32) : S100000.Idx := ix1 ⟨w.toNat % 100000, Nat.mod_lt _ (by decide)⟩

/-- What a gather loop is asked to do, as a rule for the loop at the head of a program: from the row scratch at `fR`, the output
    scratch at anything and the loop's own resources `IA` (its index scratch), it leaves the output scratch at the row's
    entries selected by the index words `ia`, everything else as it was. -/
def GatherRule (la : Prog (TpuEff nD τ sig (Elt F) Λ₀ (.scVector c s)) (BitVec 32))
    (row : Memref sig .scVector .vmem S100000 .f32) (och : Memref sig .scVector .vmem S8192 .f32)
    (IA : sProp 𝕄) (ia : S8192.Idx → BitVec 32) : Prop :=
  ∀ {α : Type} (kk : BitVec 32 → Prog (TpuEff nD τ sig (Elt F) Λ₀ (.scVector c s)) α) (Q : α → sProp 𝕄)
    (fR : Buf (Elt F) (row.view.loc (V d c s))) (fO : Buf (Elt F) (och.view.loc (V d c s))),
    iprop(IA ∗ (row.view.loc (V d c s) ↦{fullShare} fR) ∗ (och.view.loc (V d c s) ↦{fullShare} fO)
        ∗ (∀ acc fO', ⌜och.view.read (Elt F) fO' = fun y => row.view.read (Elt F) fR (rowOf (ia y))⌝ -∗ IA
            -∗ (row.view.loc (V d c s) ↦{fullShare} fR) -∗ (och.view.loc (V d c s) ↦{fullShare} fO')
            -∗ wp frame (wpE defs Variants.none (V d c s) none) Set.univ (kk acc) Q))
      ⊢ wp frame (wpE defs Variants.none (V d c s) none) Set.univ (la >>= kk) Q

theorem trip_spec (tbl : Memref sig .scVector .hbm S36x100000 .f32) (htbl : tbl.IsWhole) (out : Memref sig .scVector .hbm S936x16384 .f32) (hout : out.IsWhole)
    (row : Memref sig .scVector .vmem S100000 .f32) (hrow : row.IsWhole) (och : Memref sig .scVector .vmem S8192 .f32) (hoch : och.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32))
    (IA IB : sProp 𝕄) (ia ib : S8192.Idx → BitVec 32)
    (hla : GatherRule (F := F) c s defs d la row och IA ia) (hlb : GatherRule (F := F) c s defs d lb row och IB ib)
    (O : CellTallies nD τ sig (HIx 1)) (W : Waits sig (HIx 1)) (q : PosShare TreeShare)
    (ft : Buf (Elt F) (tbl.view.loc (V d c s))) (fr : Buf (Elt F) (row.view.loc (V d c s)))
    (fo : Buf (Elt F) (och.view.loc (V d c s))) (gA gB : Buf (Elt F) (out.view.loc (V d c s)))
    (W0 : Waits sig (HIx 1)) (hW0 : ∀ p ∈ W, p ∈ W0 ∨ p.2 = none) :
    iprop(Transfers.MayWaits (V d c s) (none : HIx 1) O
        ∗ (tbl.view.loc (V d c s) ↦{q} ft)
        ∗ (row.view.loc (V d c s) ↦{fullShare} fr)
        ∗ (och.view.loc (V d c s) ↦{fullShare} fo)
        ∗ IA ∗ IB
        ∗ ((dstRow out offA inbA).view.loc (V d c s) ↦[(dstRow out offA inbA).view.set]{fullShare} gA)
        ∗ ((dstRow out offB inbB).view.loc (V d c s) ↦[(dstRow out offB inbB).view.set]{fullShare} gB)
        ∗ semVal ((V d c s), SemLoc.dma s1.sem) 0
        ∗ semVal ((V d c s), SemLoc.dma s2.sem) 0
        ∗ semVal ((V d c s), SemLoc.dma s3.sem) 0
        ∗ owes (V d c s) O W)
      ⊢ wp frame (wpE defs Variants.none (V d c s) none) Set.univ (tripProg (F := F) c s tbl out row hrow och hoch s1 s2 s3 offT inbT offA inbA offB inbB la lb)
          fun _ => iprop(Transfers.MayWaits (V d c s) (none : HIx 1) O
        ∗ (tbl.view.loc (V d c s) ↦{q} ft)
        ∗ (∃ fr', row.view.loc (V d c s) ↦{fullShare} fr')
        ∗ (∃ fo', och.view.loc (V d c s) ↦{fullShare} fo')
        ∗ IA ∗ IB
        ∗ (∃ gA', ((dstRow out offA inbA).view.loc (V d c s) ↦[(dstRow out offA inbA).view.set]{fullShare} gA')
              ∗ ⌜(dstRow out offA inbA).view.read (Elt F) gA' = fun y => (srcRow tbl offT inbT).view.read (Elt F) ft (rowOf (ia y))⌝)
        ∗ (∃ gB', ((dstRow out offB inbB).view.loc (V d c s) ↦[(dstRow out offB inbB).view.set]{fullShare} gB')
              ∗ ⌜(dstRow out offB inbB).view.read (Elt F) gB' = fun y => (srcRow tbl offT inbT).view.read (Elt F) ft (rowOf (ib y))⌝)
        ∗ semVal ((V d c s), SemLoc.dma s1.sem) 0
        ∗ semVal ((V d c s), SemLoc.dma s2.sem) 0
        ∗ semVal ((V d c s), SemLoc.dma s3.sem) 0
        ∗ ∃ W', owes (V d c s) O W' ∗ ⌜∀ p ∈ W', p ∈ W0 ∨ p.2 = none⌝) := by
  unfold tripProg partProg
  iintro ⟨Hmw, Ht, Hr, Ho, HIA, HIB, HgA, HgB, Hs1, Hs2, Hs3, HO⟩
  sl_exec
  irw [Prog.bind_assoc]
  iapply (hla _ _ _ _)
  isplitl [HIA]; · iexact HIA
  isplitl [Hr]; · iexact Hr
  isplitl [Ho]; · iexact Ho
  iintro %acc %foA %hfoA HIA Hr Ho
  sl_exec
  irw [Prog.bind_assoc]
  iapply (hlb _ _ _ _)
  isplitl [HIB]; · iexact HIB
  isplitl [Hr]; · iexact Hr
  isplitl [Ho]; · iexact Ho
  iintro %acc2 %foB %hfoB HIB Hr Ho
  sl_exec
  sl_step
  isplitl [Hmw]; · iexact Hmw
  isplitl [Ht]; · iexact Ht
  isplitl [Hr]; · iexists _; iexact Hr
  isplitl [Ho]; · iexists _; iexact Ho
  isplitl [HIA]; · iexact HIA
  isplitl [HIB]; · iexact HIB
  isplitl [HgA]
  · iexists _; isplitl [HgA]
    · iexact HgA
    · ipureintro
      funext y
      have h1 := View.read_writes_cons_emb (dstRow out offA inbA).view gA (Rect.whole S8192) (trip_spec.sl.dma0_1 och foA) [] y
      rw [Rect.emb_whole_apply] at h1
      rw [h1]
      show (och.view.read (Elt F) foA) y = _
      rw [hfoA, View.read_write_univ]
      rfl
  isplitl [HgB]
  · iexists _; isplitl [HgB]
    · iexact HgB
    · ipureintro
      funext y
      have h1 := View.read_writes_cons_emb (dstRow out offB inbB).view gB (Rect.whole S8192) (trip_spec.sl.dma0_2 och foB) [] y
      rw [Rect.emb_whole_apply] at h1
      rw [h1]
      show (och.view.read (Elt F) foB) y = _
      rw [hfoB, View.read_write_univ]
      rfl
  isplitl [Hs1]; · iexact Hs1
  isplitl [Hs2]; · iexact Hs2
  isplitl [Hs3]; · iexact Hs3
  iexists _; isplitl [HO]
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW0 p hp

/-! ## The loop over a field's rows -/

/-- The output array and the two scratch buffers the trip moves data through, as a tile addresses them. -/
abbrev oV : Memref sig .scVector .hbm S936x16384 .f32 := Memref.whole main_v27_scv
abbrev sRow : Memref sig .scVector .vmem S100000 .f32 := Memref.whole cc0_scratch0
abbrev sOch : Memref sig .scVector .vmem S8192 .f32 := Memref.whole cc0_scratch3

omit [FloatOps F] in
theorem dst_set (off : Fin 2 → Nat) (inb : ∀ a, off a + S1x8192.size a ≤ S936x16384.size a) :
    (dstRow oV off inb).view.set = (Rect.unit (s := S936x16384) off S1x8192.size inb).set := by
  show (((View.whole main_v27_scv : View sig .scVector .hbm S936x16384 .f32).slice (Rect.unit (s := S936x16384) off S1x8192.size inb)).reshape S8192
      squeezes_S1x8192_S8192.numel_eq).set = _
  rw [View.set_reshape, View.set_slice_whole]

omit [FloatOps F] in
theorem mem_dst {off : Fin 2 → Nat} {inb : ∀ a, off a + S1x8192.size a ≤ S936x16384.size a} {j : S936x16384.Idx} :
    j ∈ (dstRow oV off inb).view.set ↔ (j 0).val = off 0 ∧ off 1 ≤ (j 1).val ∧ (j 1).val < off 1 + 8192 := by
  rw [dst_set, Rect.mem_set_unit]
  constructor
  · intro h
    have h0 : off 0 ≤ (j 0 : ℕ) ∧ (j 0 : ℕ) < off 0 + 1 := h 0
    have h1 : off 1 ≤ (j 1 : ℕ) ∧ (j 1 : ℕ) < off 1 + 8192 := h 1
    omega
  · intro h a
    match a with
    | 0 => exact (show off 0 ≤ (j 0 : ℕ) ∧ (j 0 : ℕ) < off 0 + 1 from by omega)
    | 1 => exact (show off 1 ≤ (j 1 : ℕ) ∧ (j 1 : ℕ) < off 1 + 8192 from by omega)

omit [FloatOps F] [Facts] in
/-- Gluing one finished row into the tile's rows: `A` and `B` are the two halves of row `base + k`, the new contents agree with
    `G` on them, and elsewhere are the old contents, which were `G` on the rows `[base, base + k)` and `g0` off them. -/
theorem glue_row {α : Type} (Tset A B : Finset S936x16384.Idx) (G g0 g gA gB : S936x16384.Idx → α) (base k : ℕ)
    (hAm : ∀ j, j ∈ A ↔ (j 0).val = base + k ∧ (j 1).val < 8192) (hBm : ∀ j, j ∈ B ↔ (j 0).val = base + k ∧ 8192 ≤ (j 1).val)
    (hgA : ∀ j ∈ A, gA j = G j) (hgB : ∀ j ∈ B, gB j = G j)
    (hg : ∀ j ∈ Tset, g j = if base ≤ (j 0).val ∧ (j 0).val < base + k then G j else g0 j) :
    ∀ j ∈ Tset, A.piecewise gA (B.piecewise gB g) j = if base ≤ (j 0).val ∧ (j 0).val < base + (k + 1) then G j else g0 j := by
  intro j hjT
  by_cases hja : j ∈ A
  · rw [Finset.piecewise_eq_of_mem _ _ _ hja, hgA j hja, if_pos (by have := (hAm j).mp hja; omega)]
  · rw [Finset.piecewise_eq_of_notMem _ _ _ hja]
    by_cases hjb : j ∈ B
    · rw [Finset.piecewise_eq_of_mem _ _ _ hjb, hgB j hjb, if_pos (by have := (hBm j).mp hjb; omega)]
    · rw [Finset.piecewise_eq_of_notMem _ _ _ hjb, hg j hjT]
      have hne : (j 0).val ≠ base + k := by
        intro hrow
        by_cases hc : (j 1).val < 8192
        · exact hja ((hAm j).mpr ⟨hrow, hc⟩)
        · exact hjb ((hBm j).mpr ⟨hrow, by omega⟩)
      by_cases hc : base ≤ (j 0).val ∧ (j 0).val < base + k
      · rw [if_pos hc, if_pos (by omega)]
      · rw [if_neg hc, if_neg (by omega)]

omit [Facts] in
/-- Two contents that read the same through a view agree on the view's elements. -/
theorem eq_on_set_of_read_eq {sp : Space} {sh : Shape} {e : EltTy} (v : View sig .scVector sp sh e) (f g : v.ty.Contents (Elt F))
    (h : v.read (Elt F) f = v.read (Elt F) g) : ∀ j ∈ v.set, f j = g j := by
  intro j hj
  obtain ⟨y, -, rfl⟩ := Finset.mem_map.mp hj
  have e := congrFun h y
  rw [View.read_apply, View.read_apply] at e
  exact (cast_inj _).mp e

/-- What the loop over the rows `base, base + 1, …` of the output array keeps from trip to trip. Before trip `k`: the table
    whole at a read share, the two scratch buffers at some contents, the gather loops' own resources, the three semaphores
    at zero, what the tile owes, and the tile's rows `[lo, hi)` of the output array at contents that agree with `G` on
    every row below `base + k`. -/
def rowsInv (tbl : Memref sig .scVector .hbm S36x100000 .f32) (s1 s2 s3 : DmaSems sig S_) (IA IB : sProp 𝕄)
    (O : CellTallies nD τ sig (HIx 1)) (W0 : Waits sig (HIx 1)) (q : PosShare TreeShare) (ft : Buf (Elt F) (tbl.view.loc (V d c s)))
    (Tset : Finset S936x16384.Idx) (G g0 : Buf (Elt F) (oV.view.loc (V d c s))) (base : ℕ) (k : ℕ) (_ : BitVec 32) : sProp 𝕄 :=
  iprop(Transfers.MayWaits (V d c s) (none : HIx 1) O
    ∗ (tbl.view.loc (V d c s) ↦{q} ft)
    ∗ (∃ fr, sRow.view.loc (V d c s) ↦{fullShare} fr)
    ∗ (∃ fo, sOch.view.loc (V d c s) ↦{fullShare} fo)
    ∗ IA ∗ IB
    ∗ (∃ g, (oV.view.loc (V d c s) ↦[Tset]{fullShare} g) ∗ ⌜∀ j ∈ Tset, g j = if base ≤ (j 0).val ∧ (j 0).val < base + k then G j else g0 j⌝)
    ∗ semVal ((V d c s), SemLoc.dma s1.sem) 0
    ∗ semVal ((V d c s), SemLoc.dma s2.sem) 0
    ∗ semVal ((V d c s), SemLoc.dma s3.sem) 0
    ∗ ∃ W', owes (V d c s) O W' ∗ ⌜∀ p ∈ W', p ∈ W0 ∨ p.2 = none⌝)

set_option maxHeartbeats 1000000 in
theorem rows_step (tbl : Memref sig .scVector .hbm S36x100000 .f32) (htbl : tbl.IsWhole)
    (s1 s2 s3 : DmaSems sig S_)
    (offT : Fin 2 → Nat) (inbT : ∀ a, offT a + S1x100000.size a ≤ S36x100000.size a)
    (offA : Fin 2 → Nat) (inbA : ∀ a, offA a + S1x8192.size a ≤ S936x16384.size a)
    (offB : Fin 2 → Nat) (inbB : ∀ a, offB a + S1x8192.size a ≤ S936x16384.size a)
    (la lb : Prog (TpuEff nD τ sig (Elt F) Λ₀ (.scVector c s)) (BitVec 32))
    (IA IB : sProp 𝕄) (ia ib : S8192.Idx → BitVec 32)
    (hla : GatherRule (F := F) c s defs d la sRow sOch IA ia) (hlb : GatherRule (F := F) c s defs d lb sRow sOch IB ib)
    (O : CellTallies nD τ sig (HIx 1)) (W0 : Waits sig (HIx 1)) (q : PosShare TreeShare)
    (ft : Buf (Elt F) (tbl.view.loc (V d c s)))
    (Tset : Finset S936x16384.Idx) (lo hi : ℕ) (hT : ∀ j, j ∈ Tset ↔ lo ≤ (j 0).val ∧ (j 0).val < hi)
    (G g0 : Buf (Elt F) (oV.view.loc (V d c s))) (base k : ℕ) (hlo : lo ≤ base + k) (hhi : base + k < hi)
    (hoffA : offA = ![base + k, 0]) (hoffB : offB = ![base + k, 8192])
    (hGA : (dstRow oV offA inbA).view.read (Elt F) G = fun y => (srcRow tbl offT inbT).view.read (Elt F) ft (rowOf (ia y)))
    (hGB : (dstRow oV offB inbB).view.read (Elt F) G = fun y => (srcRow tbl offT inbT).view.read (Elt F) ft (rowOf (ib y)))
    (acc : BitVec 32) :
    rowsInv (F := F) c s d tbl s1 s2 s3 IA IB O W0 q ft Tset G g0 base k acc
      ⊢ wp frame (wpE defs Variants.none (V d c s) none) Set.univ
          (tripProg (F := F) c s tbl oV sRow (Memref.isWhole_whole _) sOch (Memref.isWhole_whole _) s1 s2 s3 offT inbT offA inbA offB inbB la lb)
          (rowsInv (F := F) c s d tbl s1 s2 s3 IA IB O W0 q ft Tset G g0 base (k + 1)) := by
  have hA : (dstRow oV offA inbA).view.set ⊆ Tset := by
    intro j hj
    have := mem_dst.mp hj
    rw [hoffA] at this
    exact (hT j).mpr (by have h0 : (![base + k, 0] : Fin 2 → ℕ) 0 = base + k := rfl; omega)
  have hB : (dstRow oV offB inbB).view.set ⊆ Tset \ (dstRow oV offA inbA).view.set := by
    intro j hj
    have hb := mem_dst.mp hj
    rw [hoffB] at hb
    have h0 : (![base + k, 8192] : Fin 2 → ℕ) 0 = base + k := rfl
    have h1 : (![base + k, 8192] : Fin 2 → ℕ) 1 = 8192 := rfl
    refine Finset.mem_sdiff.mpr ⟨(hT j).mpr (by omega), fun hja => ?_⟩
    have ha := mem_dst.mp hja
    rw [hoffA] at ha
    have h1' : (![base + k, 0] : Fin 2 → ℕ) 1 = 0 := rfl
    omega
  unfold rowsInv
  iintro ⟨Hmw, Ht, ⟨%fr, Hr⟩, ⟨%fo, Ho⟩, HIA, HIB, ⟨%g, Hg, %hg⟩, Hs1, Hs2, Hs3, %W, HO, %hW⟩
  ihave Hg' := (pointsTo_split_subset hA).1 $$ Hg
  icases Hg' with ⟨HgA, Hrest⟩
  ihave Hrest' := (pointsTo_split_subset hB).1 $$ Hrest
  icases Hrest' with ⟨HgB, Hrest⟩
  iapply (wp_wand_r frame (wpE defs Variants.none (V d c s) none) Set.univ)
  isplitl [Hmw Ht Hr Ho HIA HIB HgA HgB Hs1 Hs2 Hs3 HO]
  · iapply (trip_spec (F := F) c s defs d tbl htbl oV (Memref.isWhole_whole _) sRow (Memref.isWhole_whole _) sOch (Memref.isWhole_whole _) s1 s2 s3
      offT inbT offA inbA offB inbB la lb IA IB ia ib hla hlb O W q ft fr fo g g W0 hW)
    isplitl [Hmw]; · iexact Hmw
    isplitl [Ht]; · iexact Ht
    isplitl [Hr]; · iexact Hr
    isplitl [Ho]; · iexact Ho
    isplitl [HIA]; · iexact HIA
    isplitl [HIB]; · iexact HIB
    isplitl [HgA]; · iexact HgA
    isplitl [HgB]; · iexact HgB
    isplitl [Hs1]; · iexact Hs1
    isplitl [Hs2]; · iexact Hs2
    isplitl [Hs3]; · iexact Hs3
    iexact HO
  iintro %acc' ⟨Hmw, Ht, Hr, Ho, HIA, HIB, ⟨%gA', HgA, %hgA⟩, ⟨%gB', HgB, %hgB⟩, Hs1, Hs2, Hs3, HO⟩
  isplitl [Hmw]; · iexact Hmw
  isplitl [Ht]; · iexact Ht
  isplitl [Hr]; · iexact Hr
  isplitl [Ho]; · iexact Ho
  isplitl [HIA]; · iexact HIA
  isplitl [HIB]; · iexact HIB
  isplitl [HgA HgB Hrest]
  · iexists ((dstRow oV offA inbA).view.set.piecewise gA' ((dstRow oV offB inbB).view.set.piecewise gB' g))
    isplitl [HgA HgB Hrest]
    · iapply (pointsTo_join_subset (ℓ := oV.view.loc (V d c s)) (q := fullShare) hA)
      isplitl [HgA]; · iexact HgA
      iapply (pointsTo_join_subset (ℓ := oV.view.loc (V d c s)) (q := fullShare) hB)
      isplitl [HgB]; · iexact HgB
      iexact Hrest
    ipureintro
    refine glue_row Tset (dstRow oV offA inbA).view.set (dstRow oV offB inbB).view.set G g0 g gA' gB' base k (fun j => ?_) (fun j => ?_)
      (eq_on_set_of_read_eq (F := F) (dstRow oV offA inbA).view gA' G (hgA.trans hGA.symm))
      (eq_on_set_of_read_eq (F := F) (dstRow oV offB inbB).view gB' G (hgB.trans hGB.symm)) hg
    · rw [mem_dst, hoffA]
      show _ = base + k ∧ 0 ≤ _ ∧ _ < 0 + 8192 ↔ _
      omega
    · rw [mem_dst, hoffB]
      have hlt : (j 1).val < 8192 + 8192 := (j 1).isLt
      show _ = base + k ∧ 8192 ≤ _ ∧ _ < 8192 + 8192 ↔ _
      omega
  isplitl [Hs1]; · iexact Hs1
  isplitl [Hs2]; · iexact Hs2
  isplitl [Hs3]; · iexact Hs3
  iexact HO

/-- The loop over the rows of one field, as a rule for the loop at the head of a program: every trip is the trip above at
    its own offsets, the offsets are row `base + k` of the output array and its two halves, and `G` at that row is the table
    row the trip copies, gathered at the index words. After the loop the rows `[base, base + trips)` hold `G`. -/
theorem rows_loop (tbl : Memref sig .scVector .hbm S36x100000 .f32) (htbl : tbl.IsWhole)
    (s1 s2 s3 : DmaSems sig S_) (l : Scf.Loop 32) (hok : l.OK) (init : BitVec 32)
    (body : Fin l.trips → BitVec 32 → Prog (TpuEff nD τ sig (Elt F) Λ₀ (.scVector c s)) (BitVec 32))
    (offT : Fin l.trips → Fin 2 → Nat) (inbT : ∀ k a, offT k a + S1x100000.size a ≤ S36x100000.size a)
    (offA : Fin l.trips → Fin 2 → Nat) (inbA : ∀ k a, offA k a + S1x8192.size a ≤ S936x16384.size a)
    (offB : Fin l.trips → Fin 2 → Nat) (inbB : ∀ k a, offB k a + S1x8192.size a ≤ S936x16384.size a)
    (la lb : Fin l.trips → Prog (TpuEff nD τ sig (Elt F) Λ₀ (.scVector c s)) (BitVec 32))
    (hbody : ∀ k acc, body k acc = tripProg (F := F) c s tbl oV sRow (Memref.isWhole_whole _) sOch (Memref.isWhole_whole _) s1 s2 s3
        (offT k) (inbT k) (offA k) (inbA k) (offB k) (inbB k) (la k) (lb k))
    (IA IB : sProp 𝕄) (ia ib : S8192.Idx → BitVec 32)
    (hla : ∀ k, GatherRule (F := F) c s defs d (la k) sRow sOch IA ia) (hlb : ∀ k, GatherRule (F := F) c s defs d (lb k) sRow sOch IB ib)
    (O : CellTallies nD τ sig (HIx 1)) (W0 : Waits sig (HIx 1)) (q : PosShare TreeShare)
    (ft : Buf (Elt F) (tbl.view.loc (V d c s)))
    (Tset : Finset S936x16384.Idx) (lo hi : ℕ) (hT : ∀ j, j ∈ Tset ↔ lo ≤ (j 0).val ∧ (j 0).val < hi)
    (G g0 : Buf (Elt F) (oV.view.loc (V d c s))) (base : ℕ) (hlo : 0 < l.trips → lo ≤ base) (hhi : 0 < l.trips → base + l.trips ≤ hi)
    (hoffA : ∀ k : Fin l.trips, offA k = ![base + k.val, 0]) (hoffB : ∀ k : Fin l.trips, offB k = ![base + k.val, 8192])
    (hGA : ∀ k, (dstRow oV (offA k) (inbA k)).view.read (Elt F) G = fun y => (srcRow tbl (offT k) (inbT k)).view.read (Elt F) ft (rowOf (ia y)))
    (hGB : ∀ k, (dstRow oV (offB k) (inbB k)).view.read (Elt F) G = fun y => (srcRow tbl (offT k) (inbT k)).view.read (Elt F) ft (rowOf (ib y)))
    {α : Type} (kk : BitVec 32 → Prog (TpuEff nD τ sig (Elt F) Λ₀ (.scVector c s)) α) (Q : α → sProp 𝕄) :
    iprop(rowsInv (F := F) c s d tbl s1 s2 s3 IA IB O W0 q ft Tset G g0 base 0 init
        ∗ (∀ acc, rowsInv (F := F) c s d tbl s1 s2 s3 IA IB O W0 q ft Tset G g0 base l.trips acc
            -∗ wp frame (wpE defs Variants.none (V d c s) none) Set.univ (kk acc) Q))
      ⊢ wp frame (wpE defs Variants.none (V d c s) none) Set.univ (Scf.Loop.for l hok init body >>= kk) Q := by
  refine BI.wand_elim (Scf.wp_for_bind frame (wpE defs Variants.none (V d c s) none) Set.univ l.lb l.ub l.st hok init body
    (rowsInv (F := F) c s d tbl s1 s2 s3 IA IB O W0 q ft Tset G g0 base) (fun k acc => ?_))
  rw [hbody k acc]
  have hk : k.val < l.trips := k.isLt
  have hlo' := hlo (by omega)
  have hhi' := hhi (by omega)
  exact rows_step (F := F) c s defs d tbl htbl s1 s2 s3 (offT k) (inbT k) (offA k) (inbA k) (offB k) (inbB k) (la k) (lb k) IA IB ia ib (hla k) (hlb k)
    O W0 q ft Tset lo hi hT G g0 base k.val (by omega) (by omega) (hoffA k) (hoffB k) (hGA k) (hGB k) acc

end Cert.Proof.BodyRowBits
-- ==== Proof.BodyGatherBits.lean ====
import proofs.«204037_g66941360275737_cont_sun_c4_657_24_alg».proof.Kernel.P01
import proofs.«204037_g66941360275737_cont_sun_c4_657_24_alg».proof.Proof.Spec
import Idealize.ShloMosaic.Lib.SparseCore.Ops
import Idealize.ShloMosaic.Lib.SparseCore.Cells
import Idealize.ShloMosaic.Lib.Tactic

/-!
# The gather loops of one tile

Every field's two inner loops have one shape: 32 trips, each trip 16 steps; step `u` of trip `k`
reads the 16 index words at `256 k + 16 u` of an index buffer, gathers the row buffer's elements at
those indices, and stores the 16 gathered words at `256 k + 16 u` of the output buffer. After trip
`k` the output buffer's first `256 (k + 1)` elements are `j ↦ R (I j)`; after the loop, all of them.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA
open Idealize.ShloMosaic.Tactic

/-! ## The value -/

/-- The row an index word names (in range under the precondition). -/
def rowOf (w : BitVec 32) : S100000.Idx := Shape.ofLane (d := ![100000]) (Cert.Spec.rowIx w)

/-- What the gather leaves: element `y` is the row's element at the index the word `I y` names. -/
def gat {α : Type} (R : S100000.Idx → α) (I : S8192.Idx → BitVec 32) : S8192.Idx → α := fun y => R (rowOf (I y))

theorem rowOf_val {w : BitVec 32} (h : w.toNat < 100000) (a : Fin 1) : ((rowOf w) a : Nat) = w.toNat := by
  exact Cert.Spec.rowIx_val_of_lt h

/-- The row an index word names, as the rank-one index of its reduced value. -/
theorem rowOf_eq_ix1 (w : BitVec 32) : rowOf w = Idealize.ShloMosaic.ValueIdx.ix1 (Cert.Spec.rowIx w) := by
  funext a; match a with | ⟨0, _⟩ => rfl

/-- The gather, with the named row spelt as a rank-one index. -/
theorem gat_eq {α : Type} (R : S100000.Idx → α) (I : S8192.Idx → BitVec 32) :
    gat R I = fun y => R (Idealize.ShloMosaic.ValueIdx.ix1 (Cert.Spec.rowIx (I y))) := by
  funext y; unfold gat; rw [rowOf_eq_ix1]

/-! ## Offsets -/

/-- The offset of every access of trip `k`: `256 k + c`, as the program computes it. -/
def goff (k : Fin 32) (c : BitVec 32) : Fin 1 → Nat :=
  ![(Scalar.indexCast (Scalar.addi (Scalar.muli (Scf.iv 0#32 1#32 k) 256#32) c)).toNat]

theorem goff_eq : ∀ (k : Fin 32) (u : Fin 16), goff k (BitVec.ofNat 32 (16 * u.val)) = ![256 * k.val + 16 * u.val] := by decide +kernel

theorem goff_inb (k : Fin 32) (u : Fin 16) : ∀ a, goff k (BitVec.ofNat 32 (16 * u.val)) a + S16.size a ≤ S8192.size a := by
  rw [goff_eq]; intro a; have := k.isLt; have := u.isLt
  simp [S16, S8192, Shape.size]; omega

theorem h16 : 0 < S16.numel := by decide
theorem h100000 : 0 < S100000.numel := by decide

/-- The side condition each step assumes of the 16 index words it read: they name rows. -/
def gchk (v : IVec S16 32) : Prop := ∀ a x, ((![v] : Fin 1 → IVec S16 32) a x).toNat < S100000.size a

/-! ## The invariant's pure part -/

section Pure

variable {F : FTy → Type} [FloatOps F]

/-- The first `n` elements the output view reads hold `G`. -/
def Good (ochV : View sig .scVector .vmem S8192 .f32) (G : S8192.Idx → Elt F .f32) (n : Nat) (f : ochV.ty.Contents (Elt F)) : Prop :=
  ∀ y : S8192.Idx, (y 0 : Nat) < n → ochV.read (Elt F) f y = G y

theorem Good.mono {ochV : View sig .scVector .vmem S8192 .f32} {G : S8192.Idx → Elt F .f32} {n m : Nat} {f : ochV.ty.Contents (Elt F)}
    (h : Good ochV G n f) (hm : m ≤ n) : Good ochV G m f := fun y hy => h y (by omega)

theorem Good.zero (ochV : View sig .scVector .vmem S8192 .f32) (G : S8192.Idx → Elt F .f32) (f : ochV.ty.Contents (Elt F)) : Good ochV G 0 f :=
  fun y hy => absurd hy (Nat.not_lt_zero _)

theorem Good.all {ochV : View sig .scVector .vmem S8192 .f32} {G : S8192.Idx → Elt F .f32} {f : ochV.ty.Contents (Elt F)}
    (h : Good ochV G 8192 f) : ochV.read (Elt F) f = G := funext fun y => h y (y 0).isLt

/-- The check a step assumes holds of words that name rows. -/
theorem gchk_of (idxV : View sig .scVector .vmem S8192 .i32) (fI : idxV.ty.Contents (Elt F)) (r : LoadRect S8192) (hr : r.shape = S16)
    (hI : ∀ y, (idxV.read (Elt F) fI y).toNat < 100000) (v : IVec S16 32)
    (hv : ∀ x, ∃ y, v x = idxV.read (Elt F) fI y) : gchk v := by
  intro a x
  obtain rfl := Fin.fin_one_eq_zero a
  obtain ⟨y, hy⟩ := hv x
  show (v x).toNat < 100000
  rw [hy]; exact hI y

/-- One step's store extends the prefix that holds the gather by the step's 16 elements. -/
theorem good_step (ochV : View sig .scVector .vmem S8192 .f32) (idxV : View sig .scVector .vmem S8192 .i32)
    (R : S100000.Idx → Elt F .f32) (fI : idxV.ty.Contents (Elt F)) (f : ochV.ty.Contents (Elt F)) (n : Nat)
    (inbA inbB : ∀ a, (![n] : Fin 1 → Nat) a + S16.size a ≤ S8192.size a)
    (hI : ∀ y, (idxV.read (Elt F) fI y).toNat < 100000)
    (h : ∀ a x, ((![idxV.readAt (Elt F) (Rect.unit (s := S8192) ![n] S16.size inbA).toLoadRect fI] : Fin 1 → IVec S16 32) a x).toNat < S100000.size a)
    (hf : Good ochV (gat R (idxV.read (Elt F) fI)) n f) :
    Good ochV (gat R (idxV.read (Elt F) fI)) (n + 16)
      ((ochV.slice (Rect.unit (s := S8192) ![n] S16.size inbB)).write (Elt F) f
        (loadIdx R ![idxV.readAt (Elt F) (Rect.unit (s := S8192) ![n] S16.size inbA).toLoadRect fI] h) Finset.univ) := by
  intro y hy
  by_cases hlt : (y 0 : Nat) < n
  · rw [View.read_slice_write_of_not_mem]
    · exact hf y hlt
    · intro hm
      obtain ⟨x, -, hx⟩ := Finset.mem_map.mp hm
      have h0 := congrArg (fun z : S8192.Idx => (z 0 : Nat)) hx
      simp only [Rect.emb_apply, Rect.off_unit, Rect.stride_unit] at h0
      simp at h0; omega
  · have hx0 : (y 0 : Nat) - n < 16 := by omega
    have hyx : y = (Rect.unit (s := S8192) ![n] S16.size inbB).emb (Shape.ofLane (d := ![16]) ⟨(y 0 : Nat) - n, hx0⟩) := by
      funext a; obtain rfl := Fin.fin_one_eq_zero a; apply Fin.ext
      simp only [Rect.emb_apply, Rect.off_unit, Rect.stride_unit]
      simp [Shape.ofLane]; omega
    rw [hyx, View.read_slice_write_emb _ _ _ (Finset.mem_univ _)]
    show R _ = R _
    congr 1; funext a; apply Fin.ext
    rw [rowOf_val (hI _)]
    obtain rfl := Fin.fin_one_eq_zero a
    rfl

end Pure

/-! ## One step, one trip -/

section Prog

variable {F : FTy → Type} [FloatOps F] {Λ : Labels} {sc : Fin τ.nSC} {sub : Fin τ.nSub}

/-- One step ahead of a continuation: the 16 index words at `offA`, their check, the gather out of the row
    buffer, and the store of the gathered words at `offB` of the output buffer (a load of the same words precedes
    the store, as the program has it). -/
def gStep {α : Type} (idxM : Memref sig .scVector .vmem S8192 .i32) (rowM : Memref sig .scVector .vmem S100000 .f32)
    (ochM : Memref sig .scVector .vmem S8192 .f32) (offA offB : Fin 1 → Nat)
    (inbA : ∀ a, offA a + S16.size a ≤ S8192.size a) (inbB : ∀ a, offB a + S16.size a ≤ S8192.size a)
    (dec : ∀ v, Decidable (gchk v)) (k : Prog (TpuEff nD τ sig (Elt F) Λ (.scVector sc sub)) α) :
    Prog (TpuEff nD τ sig (Elt F) Λ (.scVector sc sub)) α :=
  .op (.load idxM (Rect.unit (s := S8192) offA S16.size inbA).toLoadRect (View.loadsAt_vmem h16)) fun (v : Vec F S16 .i32) =>
  .op (.assume (gchk v) (dec v)) fun hw =>
  SparseCore.vectorLoadIdx rowM ![v] hw.down (View.loads_vmem h100000) >>= fun (g : Vec F S16 .f32) =>
  .op (.load ochM (Rect.unit (s := S8192) offB S16.size inbB).toLoadRect (View.loadsAt_vmem h16)) fun (_ : Vec F S16 .f32) =>
  .op (.store ochM (Rect.unit (s := S8192) offB S16.size inbB) g Finset.univ (View.stores_vmem_bits_univ h16 rfl) (.inl rfl)) fun _ => k

end Prog

/-! ## The step's rule -/

section Step

variable {F : FTy → Type} [FloatOps F]
variable {Ix : Type} [DecidableEq Ix] {Name : Type} [DecidableEq Name] {U : Type} [URA U] {Lvl : Type} [Preorder Lvl] {Λ : Labels}
variable {defs : Defs nD τ sig (Elt F) Λ} (𝒱 : Variants) (bd : Option 𝒱.V) (E : Set Name)
variable (d : Dev nD) (sc : Fin τ.nSC) (sub : Fin τ.nSub)

local notation "𝕄" => MT nD τ sig Ix (Elt F) Name U Lvl
local notation "thr" => SparseCore.V (nD := nD) (τ := τ) d sc sub

/-- A step at offset `n` of both buffers, from the prefix `n` to the prefix `n + 16`; the index and row buffers
    are read only. -/
theorem gStep_wp {α : Type} {Q : α → sProp 𝕄}
    (idxM : Memref sig .scVector .vmem S8192 .i32) (rowM : Memref sig .scVector .vmem S100000 .f32) (ochM : Memref sig .scVector .vmem S8192 .f32)
    (offA offB : Fin 1 → Nat) (inbA : ∀ a, offA a + S16.size a ≤ S8192.size a) (inbB : ∀ a, offB a + S16.size a ≤ S8192.size a)
    (dec : ∀ v, Decidable (gchk v)) (k : Prog (TpuEff nD τ sig (Elt F) Λ (.scVector sc sub)) α)
    (n : Nat) (hA : offA = ![n]) (hB : offB = ![n]) (qi qr : PosShare TreeShare)
    (fI : Buf (Elt F) (idxM.view.loc thr)) (fR : Buf (Elt F) ((rowM.access (.whole S100000)).loc thr)) (f : Buf (Elt F) (ochM.view.loc thr))
    (hI : ∀ y, (idxM.view.read (Elt F) fI y).toNat < 100000)
    (hf : Good ochM.view (gat ((rowM.access (.whole S100000)).read (Elt F) fR) (idxM.view.read (Elt F) fI)) n f) :
    iprop((idxM.view.loc thr ↦{qi} fI) ∗ ((rowM.access (.whole S100000)).loc thr ↦{qr} fR) ∗ (ochM.view.loc thr ↦{fullShare} f)
        ∗ (∀ f', ⌜Good ochM.view (gat ((rowM.access (.whole S100000)).read (Elt F) fR) (idxM.view.read (Elt F) fI)) (n + 16) f'⌝
            -∗ (idxM.view.loc thr ↦{qi} fI) -∗ ((rowM.access (.whole S100000)).loc thr ↦{qr} fR) -∗ (ochM.view.loc thr ↦{fullShare} f')
            -∗ wp frame (wpE defs 𝒱 thr bd) E k Q))
      ⊢ wp frame (wpE defs 𝒱 thr bd) E (gStep idxM rowM ochM offA offB inbA inbB dec k) Q := by
  subst hA hB
  unfold gStep
  iintro ⟨HI, HR, HO, Hk⟩
  iapply (wp_load 𝒱 thr bd E (m := idxM) (S := Finset.univ) (Finset.subset_univ _)) $$ HI; iintro HI
  have hchk : gchk (idxM.view.readAt (Elt F) (Rect.unit (s := S8192) ![n] S16.size inbA).toLoadRect fI) := by
    intro a x
    obtain rfl := Fin.fin_one_eq_zero a
    exact hI _
  rw [wp_assume_of _ _ _ _ hchk]
  iapply (SparseCore.wp_vectorLoadIdx 𝒱 thr bd E (base := rowM) (S := Finset.univ) (q := qr) (Finset.subset_univ _)) $$ HR; iintro HR
  iapply (wp_load 𝒱 thr bd E (m := ochM) (S := Finset.univ) (Finset.subset_univ _)) $$ HO; iintro HO
  iapply (wp_store 𝒱 thr bd E (m := ochM) (r := Rect.unit (s := S8192) ![n] S16.size inbB) (Mk := Finset.univ) (S := Finset.univ) (Finset.subset_univ _)) $$ HO; iintro HO
  have hg := good_step ochM.view idxM.view ((rowM.access (.whole S100000)).read (Elt F) fR) fI f n inbA inbB hI hchk hf
  ispecialize Hk $$ %_ %hg HI HR HO
  iexact Hk

end Step

/-! ## One trip: the 16 steps at `256 k + 16 u` -/

section Trip

variable {F : FTy → Type} [FloatOps F] {Λ : Labels} {sc : Fin τ.nSC} {sub : Fin τ.nSub}

/-- Trip `k`: step `u` at offset `256 k + 16 u` of the index and output buffers, `u = 0 … 15`; the carried word
    `r` is returned. -/
def gTrip (idxM : Memref sig .scVector .vmem S8192 .i32) (rowM : Memref sig .scVector .vmem S100000 .f32)
    (ochM : Memref sig .scVector .vmem S8192 .f32) (k : Fin 32) (d0 d1 d2 d3 d4 d5 d6 d7 d8 d9 d10 d11 d12 d13 d14 d15 : ∀ v, Decidable (gchk v)) (r : BitVec 32) :
    Prog (TpuEff nD τ sig (Elt F) Λ (.scVector sc sub)) (BitVec 32) :=
  gStep idxM rowM ochM (goff k 0#32) (goff k 0#32) (goff_inb k 0) (goff_inb k 0) d0 <|
  gStep idxM rowM ochM (goff k 16#32) (goff k 16#32) (goff_inb k 1) (goff_inb k 1) d1 <|
  gStep idxM rowM ochM (goff k 32#32) (goff k 32#32) (goff_inb k 2) (goff_inb k 2) d2 <|
  gStep idxM rowM ochM (goff k 48#32) (goff k 48#32) (goff_inb k 3) (goff_inb k 3) d3 <|
  gStep idxM rowM ochM (goff k 64#32) (goff k 64#32) (goff_inb k 4) (goff_inb k 4) d4 <|
  gStep idxM rowM ochM (goff k 80#32) (goff k 80#32) (goff_inb k 5) (goff_inb k 5) d5 <|
  gStep idxM rowM ochM (goff k 96#32) (goff k 96#32) (goff_inb k 6) (goff_inb k 6) d6 <|
  gStep idxM rowM ochM (goff k 112#32) (goff k 112#32) (goff_inb k 7) (goff_inb k 7) d7 <|
  gStep idxM rowM ochM (goff k 128#32) (goff k 128#32) (goff_inb k 8) (goff_inb k 8) d8 <|
  gStep idxM rowM ochM (goff k 144#32) (goff k 144#32) (goff_inb k 9) (goff_inb k 9) d9 <|
  gStep idxM rowM ochM (goff k 160#32) (goff k 160#32) (goff_inb k 10) (goff_inb k 10) d10 <|
  gStep idxM rowM ochM (goff k 176#32) (goff k 176#32) (goff_inb k 11) (goff_inb k 11) d11 <|
  gStep idxM rowM ochM (goff k 192#32) (goff k 192#32) (goff_inb k 12) (goff_inb k 12) d12 <|
  gStep idxM rowM ochM (goff k 208#32) (goff k 208#32) (goff_inb k 13) (goff_inb k 13) d13 <|
  gStep idxM rowM ochM (goff k 224#32) (goff k 224#32) (goff_inb k 14) (goff_inb k 14) d14 <|
  gStep idxM rowM ochM (goff k 240#32) (goff k 240#32) (goff_inb k 15) (goff_inb k 15) d15 <|
  .ret r

end Trip

/-! ## The trip's and the loop's rules -/

section Loop

variable {F : FTy → Type} [FloatOps F]
variable {Ix : Type} [DecidableEq Ix] {Name : Type} [DecidableEq Name] {U : Type} [URA U] {Lvl : Type} [Preorder Lvl] {Λ : Labels}
variable {defs : Defs nD τ sig (Elt F) Λ} (𝒱 : Variants) (bd : Option 𝒱.V) (E : Set Name)
variable (d : Dev nD) (sc : Fin τ.nSC) (sub : Fin τ.nSub)

local notation "𝕄" => MT nD τ sig Ix (Elt F) Name U Lvl
local notation "thr" => SparseCore.V (nD := nD) (τ := τ) d sc sub

theorem goff_eqN (k : Fin 32) (u : Nat) (hu : u < 16) : goff k (BitVec.ofNat 32 (16 * u)) = ![256 * k.val + 16 * u] :=
  goff_eq k ⟨u, hu⟩

/-- Before trip `k`: the index and row buffers at their contents, the output buffer's first `256 k` elements the
    gather (the carried word is not constrained). -/
def inv (idxM : Memref sig .scVector .vmem S8192 .i32) (rowM : Memref sig .scVector .vmem S100000 .f32) (ochM : Memref sig .scVector .vmem S8192 .f32)
    (qi qr : PosShare TreeShare) (fI : Buf (Elt F) (idxM.view.loc thr)) (fR : Buf (Elt F) ((rowM.access (.whole S100000)).loc thr))
    (k : Nat) (_ : BitVec 32) : sProp 𝕄 :=
  iprop(∃ f : Buf (Elt F) (ochM.view.loc thr), (idxM.view.loc thr ↦{qi} fI) ∗ ((rowM.access (.whole S100000)).loc thr ↦{qr} fR) ∗ (ochM.view.loc thr ↦{fullShare} f)
    ∗ ⌜Good ochM.view (gat ((rowM.access (.whole S100000)).read (Elt F) fR) (idxM.view.read (Elt F) fI)) (256 * k) f⌝)

/-- One trip takes the invariant at `k` to the invariant at `k + 1`. -/
theorem gTrip_wp (idxM : Memref sig .scVector .vmem S8192 .i32) (rowM : Memref sig .scVector .vmem S100000 .f32) (ochM : Memref sig .scVector .vmem S8192 .f32)
    (k : Fin 32) (d0 d1 d2 d3 d4 d5 d6 d7 d8 d9 d10 d11 d12 d13 d14 d15 : ∀ v, Decidable (gchk v)) (r acc : BitVec 32) (qi qr : PosShare TreeShare)
    (fI : Buf (Elt F) (idxM.view.loc thr)) (fR : Buf (Elt F) ((rowM.access (.whole S100000)).loc thr))
    (hI : ∀ y, (idxM.view.read (Elt F) fI y).toNat < 100000) :
    inv (Ix := Ix) (Name := Name) (U := U) (Lvl := Lvl) d sc sub idxM rowM ochM qi qr fI fR k.val acc
      ⊢ wp frame (wpE defs 𝒱 thr bd) E (gTrip (Λ := Λ) idxM rowM ochM k d0 d1 d2 d3 d4 d5 d6 d7 d8 d9 d10 d11 d12 d13 d14 d15 r)
          (inv (Ix := Ix) (Name := Name) (U := U) (Lvl := Lvl) d sc sub idxM rowM ochM qi qr fI fR (k.val + 1)) := by
  unfold inv gTrip
  iintro ⟨%f, HI, HR, HO, %hf⟩
  iapply (gStep_wp 𝒱 bd E d sc sub idxM rowM ochM _ _ _ _ d0 _ _ (goff_eqN k 0 (by decide)) (goff_eqN k 0 (by decide)) qi qr fI fR _ hI (hf.mono (by omega)))
  isplitl [HI]; · iexact HI
  isplitl [HR]; · iexact HR
  isplitl [HO]; · iexact HO
  iintro %f0 %hf HI HR HO
  iapply (gStep_wp 𝒱 bd E d sc sub idxM rowM ochM _ _ _ _ d1 _ _ (goff_eqN k 1 (by decide)) (goff_eqN k 1 (by decide)) qi qr fI fR _ hI (hf.mono (by omega)))
  isplitl [HI]; · iexact HI
  isplitl [HR]; · iexact HR
  isplitl [HO]; · iexact HO
  iintro %f1 %hf HI HR HO
  iapply (gStep_wp 𝒱 bd E d sc sub idxM rowM ochM _ _ _ _ d2 _ _ (goff_eqN k 2 (by decide)) (goff_eqN k 2 (by decide)) qi qr fI fR _ hI (hf.mono (by omega)))
  isplitl [HI]; · iexact HI
  isplitl [HR]; · iexact HR
  isplitl [HO]; · iexact HO
  iintro %f2 %hf HI HR HO
  iapply (gStep_wp 𝒱 bd E d sc sub idxM rowM ochM _ _ _ _ d3 _ _ (goff_eqN k 3 (by decide)) (goff_eqN k 3 (by decide)) qi qr fI fR _ hI (hf.mono (by omega)))
  isplitl [HI]; · iexact HI
  isplitl [HR]; · iexact HR
  isplitl [HO]; · iexact HO
  iintro %f3 %hf HI HR HO
  iapply (gStep_wp 𝒱 bd E d sc sub idxM rowM ochM _ _ _ _ d4 _ _ (goff_eqN k 4 (by decide)) (goff_eqN k 4 (by decide)) qi qr fI fR _ hI (hf.mono (by omega)))
  isplitl [HI]; · iexact HI
  isplitl [HR]; · iexact HR
  isplitl [HO]; · iexact HO
  iintro %f4 %hf HI HR HO
  iapply (gStep_wp 𝒱 bd E d sc sub idxM rowM ochM _ _ _ _ d5 _ _ (goff_eqN k 5 (by decide)) (goff_eqN k 5 (by decide)) qi qr fI fR _ hI (hf.mono (by omega)))
  isplitl [HI]; · iexact HI
  isplitl [HR]; · iexact HR
  isplitl [HO]; · iexact HO
  iintro %f5 %hf HI HR HO
  iapply (gStep_wp 𝒱 bd E d sc sub idxM rowM ochM _ _ _ _ d6 _ _ (goff_eqN k 6 (by decide)) (goff_eqN k 6 (by decide)) qi qr fI fR _ hI (hf.mono (by omega)))
  isplitl [HI]; · iexact HI
  isplitl [HR]; · iexact HR
  isplitl [HO]; · iexact HO
  iintro %f6 %hf HI HR HO
  iapply (gStep_wp 𝒱 bd E d sc sub idxM rowM ochM _ _ _ _ d7 _ _ (goff_eqN k 7 (by decide)) (goff_eqN k 7 (by decide)) qi qr fI fR _ hI (hf.mono (by omega)))
  isplitl [HI]; · iexact HI
  isplitl [HR]; · iexact HR
  isplitl [HO]; · iexact HO
  iintro %f7 %hf HI HR HO
  iapply (gStep_wp 𝒱 bd E d sc sub idxM rowM ochM _ _ _ _ d8 _ _ (goff_eqN k 8 (by decide)) (goff_eqN k 8 (by decide)) qi qr fI fR _ hI (hf.mono (by omega)))
  isplitl [HI]; · iexact HI
  isplitl [HR]; · iexact HR
  isplitl [HO]; · iexact HO
  iintro %f8 %hf HI HR HO
  iapply (gStep_wp 𝒱 bd E d sc sub idxM rowM ochM _ _ _ _ d9 _ _ (goff_eqN k 9 (by decide)) (goff_eqN k 9 (by decide)) qi qr fI fR _ hI (hf.mono (by omega)))
  isplitl [HI]; · iexact HI
  isplitl [HR]; · iexact HR
  isplitl [HO]; · iexact HO
  iintro %f9 %hf HI HR HO
  iapply (gStep_wp 𝒱 bd E d sc sub idxM rowM ochM _ _ _ _ d10 _ _ (goff_eqN k 10 (by decide)) (goff_eqN k 10 (by decide)) qi qr fI fR _ hI (hf.mono (by omega)))
  isplitl [HI]; · iexact HI
  isplitl [HR]; · iexact HR
  isplitl [HO]; · iexact HO
  iintro %f10 %hf HI HR HO
  iapply (gStep_wp 𝒱 bd E d sc sub idxM rowM ochM _ _ _ _ d11 _ _ (goff_eqN k 11 (by decide)) (goff_eqN k 11 (by decide)) qi qr fI fR _ hI (hf.mono (by omega)))
  isplitl [HI]; · iexact HI
  isplitl [HR]; · iexact HR
  isplitl [HO]; · iexact HO
  iintro %f11 %hf HI HR HO
  iapply (gStep_wp 𝒱 bd E d sc sub idxM rowM ochM _ _ _ _ d12 _ _ (goff_eqN k 12 (by decide)) (goff_eqN k 12 (by decide)) qi qr fI fR _ hI (hf.mono (by omega)))
  isplitl [HI]; · iexact HI
  isplitl [HR]; · iexact HR
  isplitl [HO]; · iexact HO
  iintro %f12 %hf HI HR HO
  iapply (gStep_wp 𝒱 bd E d sc sub idxM rowM ochM _ _ _ _ d13 _ _ (goff_eqN k 13 (by decide)) (goff_eqN k 13 (by decide)) qi qr fI fR _ hI (hf.mono (by omega)))
  isplitl [HI]; · iexact HI
  isplitl [HR]; · iexact HR
  isplitl [HO]; · iexact HO
  iintro %f13 %hf HI HR HO
  iapply (gStep_wp 𝒱 bd E d sc sub idxM rowM ochM _ _ _ _ d14 _ _ (goff_eqN k 14 (by decide)) (goff_eqN k 14 (by decide)) qi qr fI fR _ hI (hf.mono (by omega)))
  isplitl [HI]; · iexact HI
  isplitl [HR]; · iexact HR
  isplitl [HO]; · iexact HO
  iintro %f14 %hf HI HR HO
  iapply (gStep_wp 𝒱 bd E d sc sub idxM rowM ochM _ _ _ _ d15 _ _ (goff_eqN k 15 (by decide)) (goff_eqN k 15 (by decide)) qi qr fI fR _ hI (hf.mono (by omega)))
  isplitl [HI]; · iexact HI
  isplitl [HR]; · iexact HR
  isplitl [HO]; · iexact HO
  iintro %f15 %hf HI HR HO
  rw [wp_ret]; imodintro
  iexists _
  isplitl [HI]; · iexact HI
  isplitl [HR]; · iexact HR
  isplitl [HO]; · iexact HO
  ipureintro; exact hf.mono (by omega)

end Loop

section LoopRule

variable {F : FTy → Type} [FloatOps F]
variable {Ix : Type} [DecidableEq Ix] {Name : Type} [DecidableEq Name] {U : Type} [URA U] {Lvl : Type} [Preorder Lvl] {Λ : Labels}
variable {defs : Defs nD τ sig (Elt F) Λ} (𝒱 : Variants) (bd : Option 𝒱.V) (E : Set Name)
variable (d : Dev nD) (sc : Fin τ.nSC) (sub : Fin τ.nSub)

local notation "𝕄" => MT nD τ sig Ix (Elt F) Name U Lvl
local notation "thr" => SparseCore.V (nD := nD) (τ := τ) d sc sub

theorem trips32 : Scf.trips (0#32 : BitVec 32) 32#32 1#32 = 32 := by decide

/-- The loop of 32 trips ahead of a continuation: from the three buffers held (index and row buffers at any
    share, every index word naming a row) to the output buffer reading the gather everywhere. -/
theorem gLoop_wp {α : Type} {Q : α → sProp 𝕄}
    (idxM : Memref sig .scVector .vmem S8192 .i32) (rowM : Memref sig .scVector .vmem S100000 .f32) (ochM : Memref sig .scVector .vmem S8192 .f32)
    (hok : Scf.OK (0#32 : BitVec 32) 32#32 1#32) (init : BitVec 32)
    (body : Fin (Scf.trips (0#32 : BitVec 32) 32#32 1#32) → BitVec 32 → Prog (TpuEff nD τ sig (Elt F) Λ (.scVector sc sub)) (BitVec 32))
    (d0 d1 d2 d3 d4 d5 d6 d7 d8 d9 d10 d11 d12 d13 d14 d15 : ∀ v, Decidable (gchk v)) (r : BitVec 32)
    (hbody : ∀ k acc, body k acc = gTrip idxM rowM ochM k d0 d1 d2 d3 d4 d5 d6 d7 d8 d9 d10 d11 d12 d13 d14 d15 r)
    (kk : BitVec 32 → Prog (TpuEff nD τ sig (Elt F) Λ (.scVector sc sub)) α) (qi qr : PosShare TreeShare)
    (fI : Buf (Elt F) (idxM.view.loc thr)) (fR : Buf (Elt F) ((rowM.access (.whole S100000)).loc thr)) (fO : Buf (Elt F) (ochM.view.loc thr))
    (hI : ∀ y, (idxM.view.read (Elt F) fI y).toNat < 100000) :
    iprop((idxM.view.loc thr ↦{qi} fI) ∗ ((rowM.access (.whole S100000)).loc thr ↦{qr} fR) ∗ (ochM.view.loc thr ↦{fullShare} fO)
        ∗ (∀ (acc : BitVec 32) (fO' : Buf (Elt F) (ochM.view.loc thr)),
            ⌜ochM.view.read (Elt F) fO' = gat ((rowM.access (.whole S100000)).read (Elt F) fR) (idxM.view.read (Elt F) fI)⌝
            -∗ (idxM.view.loc thr ↦{qi} fI) -∗ ((rowM.access (.whole S100000)).loc thr ↦{qr} fR) -∗ (ochM.view.loc thr ↦{fullShare} fO')
            -∗ wp frame (wpE defs 𝒱 thr bd) E (kk acc) Q))
      ⊢ wp frame (wpE defs 𝒱 thr bd) E (Scf.for (0#32 : BitVec 32) 32#32 1#32 hok init body >>= kk) Q := by
  iintro ⟨HI, HR, HO, Hk⟩
  iapply (Scf.wp_for_bind frame (wpE defs 𝒱 thr bd) E (0#32 : BitVec 32) 32#32 1#32 hok init body
    (inv (Ix := Ix) (Name := Name) (U := U) (Lvl := Lvl) d sc sub idxM rowM ochM qi qr fI fR) ?region) $$ [HI HR HO]
  case region =>
    intro k acc
    rw [hbody k acc]
    exact gTrip_wp 𝒱 bd E d sc sub idxM rowM ochM k d0 d1 d2 d3 d4 d5 d6 d7 d8 d9 d10 d11 d12 d13 d14 d15 r acc qi qr fI fR hI
  · unfold inv
    iexists fO
    isplitl [HI]; · iexact HI
    isplitl [HR]; · iexact HR
    isplitl [HO]; · iexact HO
    ipureintro; exact fun y hy => absurd hy (by simp)
  iintro %acc HInv
  unfold inv
  icases HInv with ⟨%f, HI, HR, HO, %hf⟩
  have hall := Good.all (hf.mono (by rw [trips32]))
  ispecialize Hk $$ %acc %f %hall HI HR HO
  iexact Hk

end LoopRule

end Cert.Kernel.Gather
-- ==== Proof.BodyRowValBits.lean ====
import proofs.«204037_g66941360275737_cont_sun_c4_657_24_alg».proof.Proof.BodyRowBits
import proofs.«204037_g66941360275737_cont_sun_c4_657_24_alg».proof.Proof.BodyGatherBits
import proofs.«204037_g66941360275737_cont_sun_c4_657_24_alg».proof.Proof.UnitArithKBits

noncomputable section

namespace Cert.Proof.BodyRowBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Shapes1.Facts₀
open K0.R1.Facts₀ (hcore0 hsub0)
open Cert.UnitArith (dlo dhi dlo_le_dhi dhi_le mem_range_iff')
open Cert.Kernel.UnitArithK

variable {F : FTy → Type} [FloatOps F] [Facts]

local notation "𝕄" => MT nD τ sig (HIx 1) (Elt F) ℕ UU ℕ

/-! ## Where the row views sit in their arrays -/

omit [FloatOps F] in
/-- Element `y` of the half-row view at offsets `off` is the output array's element `(off 0, off 1 + y)`. -/
theorem dst_emb (off : Fin 2 → Nat) (inb : ∀ a, off a + S1x8192.size a ≤ S936x16384.size a) (y : S8192.Idx) :
    (((dstRow oV off inb).view.emb y) 0 : ℕ) = off 0 ∧ (((dstRow oV off inb).view.emb y) 1 : ℕ) = off 1 + (y 0 : ℕ) := by
  have e1 : (dstRow oV off inb).view.emb y
      = (Rect.unit (s := S936x16384) off S1x8192.size inb).emb (Shape.reshapeEquiv squeezes_S1x8192_S8192.numel_eq y) := rfl
  rw [e1, Shape.reshapeEquiv_cons_one]
  constructor
  · simp only [Rect.emb_apply, Rect.off_unit, Rect.stride_unit]
    show off 0 + 1 * 0 = off 0
    omega
  · simp only [Rect.emb_apply, Rect.off_unit, Rect.stride_unit]
    show off 1 + 1 * (y 0 : ℕ) = off 1 + (y 0 : ℕ)
    omega

/-- The table entry at component `a` and row `b`, both reduced into range. -/
def tIx (a b : ℕ) : S36x100000.Idx := ix2 ⟨a % 36, Nat.mod_lt _ (by decide)⟩ ⟨b % 100000, Nat.mod_lt _ (by decide)⟩

variable (c : Fin τ.nSC) (s : Fin τ.nSub) (defs : Defs nD τ sig (Elt F) Λ₀) (d : Dev nD)

/-- The loop over the rows of one field, with the value stated entry by entry: `Tfun` is the table as a function of
    (component, row), `xrow` the field's index words, and `G` at row `u` of the field, column `b`, is the table's entry at
    component `u % 36` and the row that word `b` selects. -/
theorem rows_loop_val (tbl : Memref sig .scVector .hbm S36x100000 .f32) (htbl : tbl.IsWhole)
    (s1 s2 s3 : DmaSems sig S_) (l : Scf.Loop 32) (hok : l.OK) (init : BitVec 32)
    (body : Fin l.trips → BitVec 32 → Prog (TpuEff nD τ sig (Elt F) Λ₀ (.scVector c s)) (BitVec 32))
    (offT : Fin l.trips → Fin 2 → Nat) (inbT : ∀ k a, offT k a + S1x100000.size a ≤ S36x100000.size a)
    (offA : Fin l.trips → Fin 2 → Nat) (inbA : ∀ k a, offA k a + S1x8192.size a ≤ S936x16384.size a)
    (offB : Fin l.trips → Fin 2 → Nat) (inbB : ∀ k a, offB k a + S1x8192.size a ≤ S936x16384.size a)
    (la lb : Fin l.trips → Prog (TpuEff nD τ sig (Elt F) Λ₀ (.scVector c s)) (BitVec 32))
    (hbody : ∀ k acc, body k acc = tripProg (F := F) c s tbl oV sRow (Memref.isWhole_whole _) sOch (Memref.isWhole_whole _) s1 s2 s3
        (offT k) (inbT k) (offA k) (inbA k) (offB k) (inbB k) (la k) (lb k))
    (IA IB : sProp 𝕄) (xrow : Fin 16384 → BitVec 32)
    (hla : ∀ k, GatherRule (F := F) c s defs d (la k) sRow sOch IA (fun y => xrow ⟨(y 0).val, Nat.lt_of_lt_of_le (y 0).isLt (by decide)⟩))
    (hlb : ∀ k, GatherRule (F := F) c s defs d (lb k) sRow sOch IB (fun y => xrow ⟨(y 0).val + 8192, Nat.add_lt_add_right (y 0).isLt 8192⟩))
    (O : CellTallies nD τ sig (HIx 1)) (W0 : Waits sig (HIx 1)) (q : PosShare TreeShare)
    (ft : Buf (Elt F) (tbl.view.loc (V d c s))) (Tfun : S36x100000.Idx → Elt F .f32)
    (hsrc : ∀ off inb r, (srcRow tbl off inb).view.read (Elt F) ft r = Tfun (tIx (off 0) (off 1 + (r 0).val)))
    (Tset : Finset S936x16384.Idx) (lo hi : ℕ) (hT : ∀ j, j ∈ Tset ↔ lo ≤ (j 0).val ∧ (j 0).val < hi)
    (G g0 : Buf (Elt F) (oV.view.loc (V d c s))) (K dT base : ℕ) (hbase : base = K + dT) (hK : K % 36 = 0) (hdT : dT + l.trips ≤ 36)
    (hlo : 0 < l.trips → lo ≤ base) (hhi : 0 < l.trips → base + l.trips ≤ hi)
    (hoffT : ∀ k : Fin l.trips, offT k = ![dT + k.val, 0])
    (hoffA : ∀ k : Fin l.trips, offA k = ![base + k.val, 0]) (hoffB : ∀ k : Fin l.trips, offB k = ![base + k.val, 8192])
    (hG : ∀ x : S936x16384.Idx, base ≤ (x 0).val → (x 0).val < base + l.trips → G x = Tfun (tIx (x 0).val (xrow (x 1)).toNat))
    {α : Type} (kk : BitVec 32 → Prog (TpuEff nD τ sig (Elt F) Λ₀ (.scVector c s)) α) (Q : α → sProp 𝕄) :
    iprop(rowsInv (F := F) c s d tbl s1 s2 s3 IA IB O W0 q ft Tset G g0 base 0 init
        ∗ (∀ acc, rowsInv (F := F) c s d tbl s1 s2 s3 IA IB O W0 q ft Tset G g0 base l.trips acc
            -∗ wp frame (wpE defs Variants.none (V d c s) none) Set.univ (kk acc) Q))
      ⊢ wp frame (wpE defs Variants.none (V d c s) none) Set.univ (Scf.Loop.for l hok init body >>= kk) Q := by
  refine rows_loop (F := F) c s defs d tbl htbl s1 s2 s3 l hok init body offT inbT offA inbA offB inbB la lb hbody IA IB _ _ hla hlb O W0 q ft
    Tset lo hi hT G g0 base hlo hhi hoffA hoffB (fun k => ?_) (fun k => ?_) kk Q
  · funext y
    obtain ⟨e0, e1⟩ := dst_emb (offA k) (inbA k) y
    have a0 : offA k 0 = base + k.val := by rw [hoffA k]; rfl
    have a1 : offA k 1 = 0 := by rw [hoffA k]; rfl
    have t0 : offT k 0 = dT + k.val := by rw [hoffT k]; rfl
    have t1 : offT k 1 = 0 := by rw [hoffT k]; rfl
    have hk := k.isLt
    have hy : (y 0).val < 8192 := (y 0).isLt
    rw [hsrc, View.read_apply]
    show G ((dstRow oV (offA k) (inbA k)).view.emb y) = _
    rw [hG _ (by omega) (by omega)]
    congr 1
    have hxc : (((dstRow oV (offA k) (inbA k)).view.emb y) 1 : Fin 16384) = ⟨(y 0).val, by omega⟩ := Fin.ext (by show _ = (y 0).val; omega)
    rw [hxc]
    unfold tIx
    congr 1
    · apply Fin.ext
      show _ % 36 = _ % 36
      omega
    · apply Fin.ext
      show (xrow _).toNat % 100000 = (offT k 1 + (xrow _).toNat % 100000) % 100000
      rw [t1, Nat.zero_add, Nat.mod_mod]
      rfl
  · funext y
    obtain ⟨e0, e1⟩ := dst_emb (offB k) (inbB k) y
    have a0 : offB k 0 = base + k.val := by rw [hoffB k]; rfl
    have a1 : offB k 1 = 8192 := by rw [hoffB k]; rfl
    have t0 : offT k 0 = dT + k.val := by rw [hoffT k]; rfl
    have t1 : offT k 1 = 0 := by rw [hoffT k]; rfl
    have hk := k.isLt
    have hy : (y 0).val < 8192 := (y 0).isLt
    rw [hsrc, View.read_apply]
    show G ((dstRow oV (offB k) (inbB k)).view.emb y) = _
    rw [hG _ (by omega) (by omega)]
    congr 1
    have hxc : (((dstRow oV (offB k) (inbB k)).view.emb y) 1 : Fin 16384) = ⟨(y 0).val + 8192, by omega⟩ := Fin.ext (by show _ = (y 0).val + 8192; omega)
    rw [hxc]
    unfold tIx
    congr 1
    · apply Fin.ext
      show _ % 36 = _ % 36
      omega
    · apply Fin.ext
      show (xrow _).toNat % 100000 = (offT k 1 + (xrow _).toNat % 100000) % 100000
      rw [t1, Nat.zero_add, Nat.mod_mod]
      rfl

/-- The same, with the two index scratches in the form the rows' loop finds them: whenever the loop has a trip, their reads
    are the two halves of the field's index words. -/
theorem field_loop (tbl : Memref sig .scVector .hbm S36x100000 .f32) (htbl : tbl.IsWhole)
    (s1 s2 s3 : DmaSems sig S_) (l : Scf.Loop 32) (hok : l.OK) (init : BitVec 32)
    (body : Fin l.trips → BitVec 32 → Prog (TpuEff nD τ sig (Elt F) Λ₀ (.scVector c s)) (BitVec 32))
    (offT : Fin l.trips → Fin 2 → Nat) (inbT : ∀ k a, offT k a + S1x100000.size a ≤ S36x100000.size a)
    (offA : Fin l.trips → Fin 2 → Nat) (inbA : ∀ k a, offA k a + S1x8192.size a ≤ S936x16384.size a)
    (offB : Fin l.trips → Fin 2 → Nat) (inbB : ∀ k a, offB k a + S1x8192.size a ≤ S936x16384.size a)
    (la lb : Fin l.trips → Prog (TpuEff nD τ sig (Elt F) Λ₀ (.scVector c s)) (BitVec 32))
    (hbody : ∀ k acc, body k acc = tripProg (F := F) c s tbl oV sRow (Memref.isWhole_whole _) sOch (Memref.isWhole_whole _) s1 s2 s3
        (offT k) (inbT k) (offA k) (inbA k) (offB k) (inbB k) (la k) (lb k))
    (idxA idxB : Memref sig .scVector .vmem S8192 .i32)
    (fa : Buf (Elt F) (idxA.view.loc (V d c s))) (fb : Buf (Elt F) (idxB.view.loc (V d c s))) (xrow : Fin 16384 → BitVec 32)
    (hla : ∀ k, GatherRule (F := F) c s defs d (la k) sRow sOch (idxA.view.loc (V d c s) ↦{fullShare} fa) (idxA.view.read (Elt F) fa))
    (hlb : ∀ k, GatherRule (F := F) c s defs d (lb k) sRow sOch (idxB.view.loc (V d c s) ↦{fullShare} fb) (idxB.view.read (Elt F) fb))
    (hidx : 0 < l.trips → (∀ y : S8192.Idx, idxA.view.read (Elt F) fa y = xrow ⟨(y 0).val, Nat.lt_of_lt_of_le (y 0).isLt (by decide)⟩)
      ∧ (∀ y : S8192.Idx, idxB.view.read (Elt F) fb y = xrow ⟨(y 0).val + 8192, Nat.add_lt_add_right (y 0).isLt 8192⟩))
    (O : CellTallies nD τ sig (HIx 1)) (W0 : Waits sig (HIx 1)) (q : PosShare TreeShare)
    (ft : Buf (Elt F) (tbl.view.loc (V d c s))) (Tfun : S36x100000.Idx → Elt F .f32)
    (hsrc : ∀ off inb r, (srcRow tbl off inb).view.read (Elt F) ft r = Tfun (tIx (off 0) (off 1 + (r 0).val)))
    (Tset : Finset S936x16384.Idx) (lo hi : ℕ) (hT : ∀ j, j ∈ Tset ↔ lo ≤ (j 0).val ∧ (j 0).val < hi)
    (G g0 : Buf (Elt F) (oV.view.loc (V d c s))) (K dT base : ℕ) (hbase : base = K + dT) (hK : K % 36 = 0) (hdT : dT + l.trips ≤ 36)
    (hlo : 0 < l.trips → lo ≤ base) (hhi : 0 < l.trips → base + l.trips ≤ hi)
    (hoffT : ∀ k : Fin l.trips, offT k = ![dT + k.val, 0])
    (hoffA : ∀ k : Fin l.trips, offA k = ![base + k.val, 0]) (hoffB : ∀ k : Fin l.trips, offB k = ![base + k.val, 8192])
    (hG : ∀ x : S936x16384.Idx, base ≤ (x 0).val → (x 0).val < base + l.trips → G x = Tfun (tIx (x 0).val (xrow (x 1)).toNat))
    {α : Type} (kk : BitVec 32 → Prog (TpuEff nD τ sig (Elt F) Λ₀ (.scVector c s)) α) (Q : α → sProp 𝕄) :
    iprop(rowsInv (F := F) c s d tbl s1 s2 s3 (idxA.view.loc (V d c s) ↦{fullShare} fa) (idxB.view.loc (V d c s) ↦{fullShare} fb) O W0 q ft Tset G g0 base 0 init
        ∗ (∀ acc, rowsInv (F := F) c s d tbl s1 s2 s3 (idxA.view.loc (V d c s) ↦{fullShare} fa) (idxB.view.loc (V d c s) ↦{fullShare} fb) O W0 q ft Tset G g0 base l.trips acc
            -∗ wp frame (wpE defs Variants.none (V d c s) none) Set.univ (kk acc) Q))
      ⊢ wp frame (wpE defs Variants.none (V d c s) none) Set.univ (Scf.Loop.for l hok init body >>= kk) Q := by
  refine rows_loop_val (F := F) c s defs d tbl htbl s1 s2 s3 l hok init body offT inbT offA inbA offB inbB la lb hbody _ _ xrow
    (fun k => ?_) (fun k => ?_) O W0 q ft Tfun hsrc Tset lo hi hT G g0 K dT base hbase hK hdT hlo hhi hoffT hoffA hoffB hG kk Q
  · have h := (hidx (Nat.lt_of_le_of_lt (Nat.zero_le _) k.isLt)).1
    rw [← funext h]
    intro α kk' Q' fR fO
    exact hla k kk' Q' fR fO
  · have h := (hidx (Nat.lt_of_le_of_lt (Nat.zero_le _) k.isLt)).2
    rw [← funext h]
    intro α kk' Q' fR fO
    exact hlb k kk' Q' fR fO

/-! ## The gather loops' rules, in the form the trip takes them -/

/-- A gather loop's rule as the trip takes it, from the rule stated with the gathered vector spelt as
    `Cert.Kernel.Gather.gat` over the row scratch's whole-buffer access. -/
theorem gatherRule_of (la : Prog (TpuEff nD τ sig (Elt F) Λ₀ (.scVector c s)) (BitVec 32))
    (idxM : Memref sig .scVector .vmem S8192 .i32) (fI : Buf (Elt F) (idxM.view.loc (V d c s)))
    (hrule : ∀ {α : Type} (kk : BitVec 32 → Prog (TpuEff nD τ sig (Elt F) Λ₀ (.scVector c s)) α) (Q : α → sProp 𝕄)
      (fR : Buf (Elt F) (sRow.view.loc (V d c s))) (fO : Buf (Elt F) (sOch.view.loc (V d c s))),
      iprop((idxM.view.loc (V d c s) ↦{fullShare} fI) ∗ (sRow.view.loc (V d c s) ↦{fullShare} fR) ∗ (sOch.view.loc (V d c s) ↦{fullShare} fO)
          ∗ (∀ (acc : BitVec 32) (fO' : Buf (Elt F) (sOch.view.loc (V d c s))),
              ⌜sOch.view.read (Elt F) fO' = Cert.Kernel.Gather.gat ((sRow.access (.whole S100000)).read (Elt F) fR) (idxM.view.read (Elt F) fI)⌝
              -∗ (idxM.view.loc (V d c s) ↦{fullShare} fI) -∗ (sRow.view.loc (V d c s) ↦{fullShare} fR) -∗ (sOch.view.loc (V d c s) ↦{fullShare} fO')
              -∗ wp frame (wpE defs Variants.none (V d c s) none) Set.univ (kk acc) Q))
        ⊢ wp frame (wpE defs Variants.none (V d c s) none) Set.univ (la >>= kk) Q) :
    GatherRule (F := F) c s defs d la sRow sOch (idxM.view.loc (V d c s) ↦{fullShare} fI) (idxM.view.read (Elt F) fI) := by
  intro α kk Q fR fO
  iintro ⟨HIA, Hr, Ho, Hk⟩
  iapply (hrule kk Q fR fO)
  isplitl [HIA]; · iexact HIA
  isplitl [Hr]; · iexact Hr
  isplitl [Ho]; · iexact Ho
  iintro %acc %fO' %h HI HR HO
  have h' : sOch.view.read (Elt F) fO' = fun y => sRow.view.read (Elt F) fR (rowOf (idxM.view.read (Elt F) fI y)) := by
    have ea : (sRow.access (.whole S100000)).read (Elt F) fR = fR := Memref.read_access_whole (Elt F) cc0_scratch0 fR
    rw [h, Cert.Kernel.Gather.gat_eq, ea]
    rfl
  ispecialize Hk $$ %acc %fO' %h' HI HR HO
  iexact Hk

/-! ## Reading a table row through its view -/

/-- Reading row `off 0` of table 1 through its row view: entry `(off 0, off 1 + r)` of the table. -/
theorem src_read_1 (d : Dev nD) (c : Fin τ.nSC) (s : Fin τ.nSub) (ft : Buf (Elt F) ((Memref.whole main_v1_scv : Memref sig .scVector .hbm S36x100000 .f32).view.loc (V d c s)))
    (off : Fin 2 → Nat) (inb : ∀ a, off a + S1x100000.size a ≤ S36x100000.size a) (r : S100000.Idx) :
    (srcRow (Memref.whole main_v1_scv) off inb).view.read (Elt F) ft r = ft (tIx (off 0) (off 1 + (r 0).val)) := by
  have e1 : (srcRow (Memref.whole main_v1_scv) off inb).view.emb r
      = (Rect.unit (s := S36x100000) off S1x100000.size inb).emb (Shape.reshapeEquiv squeezes_S1x100000_S100000.numel_eq r) := rfl
  rw [View.read_apply]
  show ft ((srcRow (Memref.whole main_v1_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 2 through its row view: entry `(off 0, off 1 + r)` of the table. -/
theorem src_read_2 (d : Dev nD) (c : Fin τ.nSC) (s : Fin τ.nSub) (ft : Buf (Elt F) ((Memref.whole main_v2_scv : Memref sig .scVector .hbm S36x100000 .f32).view.loc (V d c s)))
    (off : Fin 2 → Nat) (inb : ∀ a, off a + S1x100000.size a ≤ S36x100000.size a) (r : S100000.Idx) :
    (srcRow (Memref.whole main_v2_scv) off inb).view.read (Elt F) ft r = ft (tIx (off 0) (off 1 + (r 0).val)) := by
  have e1 : (srcRow (Memref.whole main_v2_scv) off inb).view.emb r
      = (Rect.unit (s := S36x100000) off S1x100000.size inb).emb (Shape.reshapeEquiv squeezes_S1x100000_S100000.numel_eq r) := rfl
  rw [View.read_apply]
  show ft ((srcRow (Memref.whole main_v2_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 3 through its row view: entry `(off 0, off 1 + r)` of the table. -/
theorem src_read_3 (d : Dev nD) (c : Fin τ.nSC) (s : Fin τ.nSub) (ft : Buf (Elt F) ((Memref.whole main_v3_scv : Memref sig .scVector .hbm S36x100000 .f32).view.loc (V d c s)))
    (off : Fin 2 → Nat) (inb : ∀ a, off a + S1x100000.size a ≤ S36x100000.size a) (r : S100000.Idx) :
    (srcRow (Memref.whole main_v3_scv) off inb).view.read (Elt F) ft r = ft (tIx (off 0) (off 1 + (r 0).val)) := by
  have e1 : (srcRow (Memref.whole main_v3_scv) off inb).view.emb r
      = (Rect.unit (s := S36x100000) off S1x100000.size inb).emb (Shape.reshapeEquiv squeezes_S1x100000_S100000.numel_eq r) := rfl
  rw [View.read_apply]
  show ft ((srcRow (Memref.whole main_v3_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 4 through its row view: entry `(off 0, off 1 + r)` of the table. -/
theorem src_read_4 (d : Dev nD) (c : Fin τ.nSC) (s : Fin τ.nSub) (ft : Buf (Elt F) ((Memref.whole main_v4_scv : Memref sig .scVector .hbm S36x100000 .f32).view.loc (V d c s)))
    (off : Fin 2 → Nat) (inb : ∀ a, off a + S1x100000.size a ≤ S36x100000.size a) (r : S100000.Idx) :
    (srcRow (Memref.whole main_v4_scv) off inb).view.read (Elt F) ft r = ft (tIx (off 0) (off 1 + (r 0).val)) := by
  have e1 : (srcRow (Memref.whole main_v4_scv) off inb).view.emb r
      = (Rect.unit (s := S36x100000) off S1x100000.size inb).emb (Shape.reshapeEquiv squeezes_S1x100000_S100000.numel_eq r) := rfl
  rw [View.read_apply]
  show ft ((srcRow (Memref.whole main_v4_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 5 through its row view: entry `(off 0, off 1 + r)` of the table. -/
theorem src_read_5 (d : Dev nD) (c : Fin τ.nSC) (s : Fin τ.nSub) (ft : Buf (Elt F) ((Memref.whole main_v5_scv : Memref sig .scVector .hbm S36x100000 .f32).view.loc (V d c s)))
    (off : Fin 2 → Nat) (inb : ∀ a, off a + S1x100000.size a ≤ S36x100000.size a) (r : S100000.Idx) :
    (srcRow (Memref.whole main_v5_scv) off inb).view.read (Elt F) ft r = ft (tIx (off 0) (off 1 + (r 0).val)) := by
  have e1 : (srcRow (Memref.whole main_v5_scv) off inb).view.emb r
      = (Rect.unit (s := S36x100000) off S1x100000.size inb).emb (Shape.reshapeEquiv squeezes_S1x100000_S100000.numel_eq r) := rfl
  rw [View.read_apply]
  show ft ((srcRow (Memref.whole main_v5_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 6 through its row view: entry `(off 0, off 1 + r)` of the table. -/
theorem src_read_6 (d : Dev nD) (c : Fin τ.nSC) (s : Fin τ.nSub) (ft : Buf (Elt F) ((Memref.whole main_v6_scv : Memref sig .scVector .hbm S36x100000 .f32).view.loc (V d c s)))
    (off : Fin 2 → Nat) (inb : ∀ a, off a + S1x100000.size a ≤ S36x100000.size a) (r : S100000.Idx) :
    (srcRow (Memref.whole main_v6_scv) off inb).view.read (Elt F) ft r = ft (tIx (off 0) (off 1 + (r 0).val)) := by
  have e1 : (srcRow (Memref.whole main_v6_scv) off inb).view.emb r
      = (Rect.unit (s := S36x100000) off S1x100000.size inb).emb (Shape.reshapeEquiv squeezes_S1x100000_S100000.numel_eq r) := rfl
  rw [View.read_apply]
  show ft ((srcRow (Memref.whole main_v6_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 7 through its row view: entry `(off 0, off 1 + r)` of the table. -/
theorem src_read_7 (d : Dev nD) (c : Fin τ.nSC) (s : Fin τ.nSub) (ft : Buf (Elt F) ((Memref.whole main_v7_scv : Memref sig .scVector .hbm S36x100000 .f32).view.loc (V d c s)))
    (off : Fin 2 → Nat) (inb : ∀ a, off a + S1x100000.size a ≤ S36x100000.size a) (r : S100000.Idx) :
    (srcRow (Memref.whole main_v7_scv) off inb).view.read (Elt F) ft r = ft (tIx (off 0) (off 1 + (r 0).val)) := by
  have e1 : (srcRow (Memref.whole main_v7_scv) off inb).view.emb r
      = (Rect.unit (s := S36x100000) off S1x100000.size inb).emb (Shape.reshapeEquiv squeezes_S1x100000_S100000.numel_eq r) := rfl
  rw [View.read_apply]
  show ft ((srcRow (Memref.whole main_v7_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 8 through its row view: entry `(off 0, off 1 + r)` of the table. -/
theorem src_read_8 (d : Dev nD) (c : Fin τ.nSC) (s : Fin τ.nSub) (ft : Buf (Elt F) ((Memref.whole main_v8_scv : Memref sig .scVector .hbm S36x100000 .f32).view.loc (V d c s)))
    (off : Fin 2 → Nat) (inb : ∀ a, off a + S1x100000.size a ≤ S36x100000.size a) (r : S100000.Idx) :
    (srcRow (Memref.whole main_v8_scv) off inb).view.read (Elt F) ft r = ft (tIx (off 0) (off 1 + (r 0).val)) := by
  have e1 : (srcRow (Memref.whole main_v8_scv) off inb).view.emb r
      = (Rect.unit (s := S36x100000) off S1x100000.size inb).emb (Shape.reshapeEquiv squeezes_S1x100000_S100000.numel_eq r) := rfl
  rw [View.read_apply]
  show ft ((srcRow (Memref.whole main_v8_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 9 through its row view: entry `(off 0, off 1 + r)` of the table. -/
theorem src_read_9 (d : Dev nD) (c : Fin τ.nSC) (s : Fin τ.nSub) (ft : Buf (Elt F) ((Memref.whole main_v9_scv : Memref sig .scVector .hbm S36x100000 .f32).view.loc (V d c s)))
    (off : Fin 2 → Nat) (inb : ∀ a, off a + S1x100000.size a ≤ S36x100000.size a) (r : S100000.Idx) :
    (srcRow (Memref.whole main_v9_scv) off inb).view.read (Elt F) ft r = ft (tIx (off 0) (off 1 + (r 0).val)) := by
  have e1 : (srcRow (Memref.whole main_v9_scv) off inb).view.emb r
      = (Rect.unit (s := S36x100000) off S1x100000.size inb).emb (Shape.reshapeEquiv squeezes_S1x100000_S100000.numel_eq r) := rfl
  rw [View.read_apply]
  show ft ((srcRow (Memref.whole main_v9_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 10 through its row view: entry `(off 0, off 1 + r)` of the table. -/
theorem src_read_10 (d : Dev nD) (c : Fin τ.nSC) (s : Fin τ.nSub) (ft : Buf (Elt F) ((Memref.whole main_v10_scv : Memref sig .scVector .hbm S36x100000 .f32).view.loc (V d c s)))
    (off : Fin 2 → Nat) (inb : ∀ a, off a + S1x100000.size a ≤ S36x100000.size a) (r : S100000.Idx) :
    (srcRow (Memref.whole main_v10_scv) off inb).view.read (Elt F) ft r = ft (tIx (off 0) (off 1 + (r 0).val)) := by
  have e1 : (srcRow (Memref.whole main_v10_scv) off inb).view.emb r
      = (Rect.unit (s := S36x100000) off S1x100000.size inb).emb (Shape.reshapeEquiv squeezes_S1x100000_S100000.numel_eq r) := rfl
  rw [View.read_apply]
  show ft ((srcRow (Memref.whole main_v10_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 11 through its row view: entry `(off 0, off 1 + r)` of the table. -/
theorem src_read_11 (d : Dev nD) (c : Fin τ.nSC) (s : Fin τ.nSub) (ft : Buf (Elt F) ((Memref.whole main_v11_scv : Memref sig .scVector .hbm S36x100000 .f32).view.loc (V d c s)))
    (off : Fin 2 → Nat) (inb : ∀ a, off a + S1x100000.size a ≤ S36x100000.size a) (r : S100000.Idx) :
    (srcRow (Memref.whole main_v11_scv) off inb).view.read (Elt F) ft r = ft (tIx (off 0) (off 1 + (r 0).val)) := by
  have e1 : (srcRow (Memref.whole main_v11_scv) off inb).view.emb r
      = (Rect.unit (s := S36x100000) off S1x100000.size inb).emb (Shape.reshapeEquiv squeezes_S1x100000_S100000.numel_eq r) := rfl
  rw [View.read_apply]
  show ft ((srcRow (Memref.whole main_v11_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 12 through its row view: entry `(off 0, off 1 + r)` of the table. -/
theorem src_read_12 (d : Dev nD) (c : Fin τ.nSC) (s : Fin τ.nSub) (ft : Buf (Elt F) ((Memref.whole main_v12_scv : Memref sig .scVector .hbm S36x100000 .f32).view.loc (V d c s)))
    (off : Fin 2 → Nat) (inb : ∀ a, off a + S1x100000.size a ≤ S36x100000.size a) (r : S100000.Idx) :
    (srcRow (Memref.whole main_v12_scv) off inb).view.read (Elt F) ft r = ft (tIx (off 0) (off 1 + (r 0).val)) := by
  have e1 : (srcRow (Memref.whole main_v12_scv) off inb).view.emb r
      = (Rect.unit (s := S36x100000) off S1x100000.size inb).emb (Shape.reshapeEquiv squeezes_S1x100000_S100000.numel_eq r) := rfl
  rw [View.read_apply]
  show ft ((srcRow (Memref.whole main_v12_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 13 through its row view: entry `(off 0, off 1 + r)` of the table. -/
theorem src_read_13 (d : Dev nD) (c : Fin τ.nSC) (s : Fin τ.nSub) (ft : Buf (Elt F) ((Memref.whole main_v13_scv : Memref sig .scVector .hbm S36x100000 .f32).view.loc (V d c s)))
    (off : Fin 2 → Nat) (inb : ∀ a, off a + S1x100000.size a ≤ S36x100000.size a) (r : S100000.Idx) :
    (srcRow (Memref.whole main_v13_scv) off inb).view.read (Elt F) ft r = ft (tIx (off 0) (off 1 + (r 0).val)) := by
  have e1 : (srcRow (Memref.whole main_v13_scv) off inb).view.emb r
      = (Rect.unit (s := S36x100000) off S1x100000.size inb).emb (Shape.reshapeEquiv squeezes_S1x100000_S100000.numel_eq r) := rfl
  rw [View.read_apply]
  show ft ((srcRow (Memref.whole main_v13_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 14 through its row view: entry `(off 0, off 1 + r)` of the table. -/
theorem src_read_14 (d : Dev nD) (c : Fin τ.nSC) (s : Fin τ.nSub) (ft : Buf (Elt F) ((Memref.whole main_v14_scv : Memref sig .scVector .hbm S36x100000 .f32).view.loc (V d c s)))
    (off : Fin 2 → Nat) (inb : ∀ a, off a + S1x100000.size a ≤ S36x100000.size a) (r : S100000.Idx) :
    (srcRow (Memref.whole main_v14_scv) off inb).view.read (Elt F) ft r = ft (tIx (off 0) (off 1 + (r 0).val)) := by
  have e1 : (srcRow (Memref.whole main_v14_scv) off inb).view.emb r
      = (Rect.unit (s := S36x100000) off S1x100000.size inb).emb (Shape.reshapeEquiv squeezes_S1x100000_S100000.numel_eq r) := rfl
  rw [View.read_apply]
  show ft ((srcRow (Memref.whole main_v14_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 15 through its row view: entry `(off 0, off 1 + r)` of the table. -/
theorem src_read_15 (d : Dev nD) (c : Fin τ.nSC) (s : Fin τ.nSub) (ft : Buf (Elt F) ((Memref.whole main_v15_scv : Memref sig .scVector .hbm S36x100000 .f32).view.loc (V d c s)))
    (off : Fin 2 → Nat) (inb : ∀ a, off a + S1x100000.size a ≤ S36x100000.size a) (r : S100000.Idx) :
    (srcRow (Memref.whole main_v15_scv) off inb).view.read (Elt F) ft r = ft (tIx (off 0) (off 1 + (r 0).val)) := by
  have e1 : (srcRow (Memref.whole main_v15_scv) off inb).view.emb r
      = (Rect.unit (s := S36x100000) off S1x100000.size inb).emb (Shape.reshapeEquiv squeezes_S1x100000_S100000.numel_eq r) := rfl
  rw [View.read_apply]
  show ft ((srcRow (Memref.whole main_v15_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 16 through its row view: entry `(off 0, off 1 + r)` of the table. -/
theorem src_read_16 (d : Dev nD) (c : Fin τ.nSC) (s : Fin τ.nSub) (ft : Buf (Elt F) ((Memref.whole main_v16_scv : Memref sig .scVector .hbm S36x100000 .f32).view.loc (V d c s)))
    (off : Fin 2 → Nat) (inb : ∀ a, off a + S1x100000.size a ≤ S36x100000.size a) (r : S100000.Idx) :
    (srcRow (Memref.whole main_v16_scv) off inb).view.read (Elt F) ft r = ft (tIx (off 0) (off 1 + (r 0).val)) := by
  have e1 : (srcRow (Memref.whole main_v16_scv) off inb).view.emb r
      = (Rect.unit (s := S36x100000) off S1x100000.size inb).emb (Shape.reshapeEquiv squeezes_S1x100000_S100000.numel_eq r) := rfl
  rw [View.read_apply]
  show ft ((srcRow (Memref.whole main_v16_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 17 through its row view: entry `(off 0, off 1 + r)` of the table. -/
theorem src_read_17 (d : Dev nD) (c : Fin τ.nSC) (s : Fin τ.nSub) (ft : Buf (Elt F) ((Memref.whole main_v17_scv : Memref sig .scVector .hbm S36x100000 .f32).view.loc (V d c s)))
    (off : Fin 2 → Nat) (inb : ∀ a, off a + S1x100000.size a ≤ S36x100000.size a) (r : S100000.Idx) :
    (srcRow (Memref.whole main_v17_scv) off inb).view.read (Elt F) ft r = ft (tIx (off 0) (off 1 + (r 0).val)) := by
  have e1 : (srcRow (Memref.whole main_v17_scv) off inb).view.emb r
      = (Rect.unit (s := S36x100000) off S1x100000.size inb).emb (Shape.reshapeEquiv squeezes_S1x100000_S100000.numel_eq r) := rfl
  rw [View.read_apply]
  show ft ((srcRow (Memref.whole main_v17_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 18 through its row view: entry `(off 0, off 1 + r)` of the table. -/
theorem src_read_18 (d : Dev nD) (c : Fin τ.nSC) (s : Fin τ.nSub) (ft : Buf (Elt F) ((Memref.whole main_v18_scv : Memref sig .scVector .hbm S36x100000 .f32).view.loc (V d c s)))
    (off : Fin 2 → Nat) (inb : ∀ a, off a + S1x100000.size a ≤ S36x100000.size a) (r : S100000.Idx) :
    (srcRow (Memref.whole main_v18_scv) off inb).view.read (Elt F) ft r = ft (tIx (off 0) (off 1 + (r 0).val)) := by
  have e1 : (srcRow (Memref.whole main_v18_scv) off inb).view.emb r
      = (Rect.unit (s := S36x100000) off S1x100000.size inb).emb (Shape.reshapeEquiv squeezes_S1x100000_S100000.numel_eq r) := rfl
  rw [View.read_apply]
  show ft ((srcRow (Memref.whole main_v18_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 19 through its row view: entry `(off 0, off 1 + r)` of the table. -/
theorem src_read_19 (d : Dev nD) (c : Fin τ.nSC) (s : Fin τ.nSub) (ft : Buf (Elt F) ((Memref.whole main_v19_scv : Memref sig .scVector .hbm S36x100000 .f32).view.loc (V d c s)))
    (off : Fin 2 → Nat) (inb : ∀ a, off a + S1x100000.size a ≤ S36x100000.size a) (r : S100000.Idx) :
    (srcRow (Memref.whole main_v19_scv) off inb).view.read (Elt F) ft r = ft (tIx (off 0) (off 1 + (r 0).val)) := by
  have e1 : (srcRow (Memref.whole main_v19_scv) off inb).view.emb r
      = (Rect.unit (s := S36x100000) off S1x100000.size inb).emb (Shape.reshapeEquiv squeezes_S1x100000_S100000.numel_eq r) := rfl
  rw [View.read_apply]
  show ft ((srcRow (Memref.whole main_v19_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 20 through its row view: entry `(off 0, off 1 + r)` of the table. -/
theorem src_read_20 (d : Dev nD) (c : Fin τ.nSC) (s : Fin τ.nSub) (ft : Buf (Elt F) ((Memref.whole main_v20_scv : Memref sig .scVector .hbm S36x100000 .f32).view.loc (V d c s)))
    (off : Fin 2 → Nat) (inb : ∀ a, off a + S1x100000.size a ≤ S36x100000.size a) (r : S100000.Idx) :
    (srcRow (Memref.whole main_v20_scv) off inb).view.read (Elt F) ft r = ft (tIx (off 0) (off 1 + (r 0).val)) := by
  have e1 : (srcRow (Memref.whole main_v20_scv) off inb).view.emb r
      = (Rect.unit (s := S36x100000) off S1x100000.size inb).emb (Shape.reshapeEquiv squeezes_S1x100000_S100000.numel_eq r) := rfl
  rw [View.read_apply]
  show ft ((srcRow (Memref.whole main_v20_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 21 through its row view: entry `(off 0, off 1 + r)` of the table. -/
theorem src_read_21 (d : Dev nD) (c : Fin τ.nSC) (s : Fin τ.nSub) (ft : Buf (Elt F) ((Memref.whole main_v21_scv : Memref sig .scVector .hbm S36x100000 .f32).view.loc (V d c s)))
    (off : Fin 2 → Nat) (inb : ∀ a, off a + S1x100000.size a ≤ S36x100000.size a) (r : S100000.Idx) :
    (srcRow (Memref.whole main_v21_scv) off inb).view.read (Elt F) ft r = ft (tIx (off 0) (off 1 + (r 0).val)) := by
  have e1 : (srcRow (Memref.whole main_v21_scv) off inb).view.emb r
      = (Rect.unit (s := S36x100000) off S1x100000.size inb).emb (Shape.reshapeEquiv squeezes_S1x100000_S100000.numel_eq r) := rfl
  rw [View.read_apply]
  show ft ((srcRow (Memref.whole main_v21_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 22 through its row view: entry `(off 0, off 1 + r)` of the table. -/
theorem src_read_22 (d : Dev nD) (c : Fin τ.nSC) (s : Fin τ.nSub) (ft : Buf (Elt F) ((Memref.whole main_v22_scv : Memref sig .scVector .hbm S36x100000 .f32).view.loc (V d c s)))
    (off : Fin 2 → Nat) (inb : ∀ a, off a + S1x100000.size a ≤ S36x100000.size a) (r : S100000.Idx) :
    (srcRow (Memref.whole main_v22_scv) off inb).view.read (Elt F) ft r = ft (tIx (off 0) (off 1 + (r 0).val)) := by
  have e1 : (srcRow (Memref.whole main_v22_scv) off inb).view.emb r
      = (Rect.unit (s := S36x100000) off S1x100000.size inb).emb (Shape.reshapeEquiv squeezes_S1x100000_S100000.numel_eq r) := rfl
  rw [View.read_apply]
  show ft ((srcRow (Memref.whole main_v22_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 23 through its row view: entry `(off 0, off 1 + r)` of the table. -/
theorem src_read_23 (d : Dev nD) (c : Fin τ.nSC) (s : Fin τ.nSub) (ft : Buf (Elt F) ((Memref.whole main_v23_scv : Memref sig .scVector .hbm S36x100000 .f32).view.loc (V d c s)))
    (off : Fin 2 → Nat) (inb : ∀ a, off a + S1x100000.size a ≤ S36x100000.size a) (r : S100000.Idx) :
    (srcRow (Memref.whole main_v23_scv) off inb).view.read (Elt F) ft r = ft (tIx (off 0) (off 1 + (r 0).val)) := by
  have e1 : (srcRow (Memref.whole main_v23_scv) off inb).view.emb r
      = (Rect.unit (s := S36x100000) off S1x100000.size inb).emb (Shape.reshapeEquiv squeezes_S1x100000_S100000.numel_eq r) := rfl
  rw [View.read_apply]
  show ft ((srcRow (Memref.whole main_v23_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 24 through its row view: entry `(off 0, off 1 + r)` of the table. -/
theorem src_read_24 (d : Dev nD) (c : Fin τ.nSC) (s : Fin τ.nSub) (ft : Buf (Elt F) ((Memref.whole main_v24_scv : Memref sig .scVector .hbm S36x100000 .f32).view.loc (V d c s)))
    (off : Fin 2 → Nat) (inb : ∀ a, off a + S1x100000.size a ≤ S36x100000.size a) (r : S100000.Idx) :
    (srcRow (Memref.whole main_v24_scv) off inb).view.read (Elt F) ft r = ft (tIx (off 0) (off 1 + (r 0).val)) := by
  have e1 : (srcRow (Memref.whole main_v24_scv) off inb).view.emb r
      = (Rect.unit (s := S36x100000) off S1x100000.size inb).emb (Shape.reshapeEquiv squeezes_S1x100000_S100000.numel_eq r) := rfl
  rw [View.read_apply]
  show ft ((srcRow (Memref.whole main_v24_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 25 through its row view: entry `(off 0, off 1 + r)` of the table. -/
theorem src_read_25 (d : Dev nD) (c : Fin τ.nSC) (s : Fin τ.nSub) (ft : Buf (Elt F) ((Memref.whole main_v25_scv : Memref sig .scVector .hbm S36x100000 .f32).view.loc (V d c s)))
    (off : Fin 2 → Nat) (inb : ∀ a, off a + S1x100000.size a ≤ S36x100000.size a) (r : S100000.Idx) :
    (srcRow (Memref.whole main_v25_scv) off inb).view.read (Elt F) ft r = ft (tIx (off 0) (off 1 + (r 0).val)) := by
  have e1 : (srcRow (Memref.whole main_v25_scv) off inb).view.emb r
      = (Rect.unit (s := S36x100000) off S1x100000.size inb).emb (Shape.reshapeEquiv squeezes_S1x100000_S100000.numel_eq r) := rfl
  rw [View.read_apply]
  show ft ((srcRow (Memref.whole main_v25_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-- Reading row `off 0` of table 26 through its row view: entry `(off 0, off 1 + r)` of the table. -/
theorem src_read_26 (d : Dev nD) (c : Fin τ.nSC) (s : Fin τ.nSub) (ft : Buf (Elt F) ((Memref.whole main_v26_scv : Memref sig .scVector .hbm S36x100000 .f32).view.loc (V d c s)))
    (off : Fin 2 → Nat) (inb : ∀ a, off a + S1x100000.size a ≤ S36x100000.size a) (r : S100000.Idx) :
    (srcRow (Memref.whole main_v26_scv) off inb).view.read (Elt F) ft r = ft (tIx (off 0) (off 1 + (r 0).val)) := by
  have e1 : (srcRow (Memref.whole main_v26_scv) off inb).view.emb r
      = (Rect.unit (s := S36x100000) off S1x100000.size inb).emb (Shape.reshapeEquiv squeezes_S1x100000_S100000.numel_eq r) := rfl
  rw [View.read_apply]
  show ft ((srcRow (Memref.whole main_v26_scv) off inb).view.emb r) = _
  rw [e1, Shape.reshapeEquiv_cons_one]
  congr 1
  have i0 : off 0 + 1 ≤ 36 := inb 0
  have i1 : off 1 + 100000 ≤ 100000 := inb 1
  have hr : (r 0).val < 100000 := (r 0).isLt
  funext a
  match a with
  | 0 =>
    apply Fin.ext
    show off 0 + 1 * 0 = off 0 % 36
    omega
  | 1 =>
    apply Fin.ext
    show off 1 + 1 * (r 0 : ℕ) = (off 1 + (r 0 : ℕ)) % 100000
    omega

/-! ## The 26 fields' loops -/

/-- Field 0's loop over its rows: the rows `[0 + dlo, 0 + dhi)` of the output array end at `G`. -/
theorem dloop_0 (L : grid0.Coords) (d : Dev nD) (defs : Defs nD τ sig (Elt F) Λ₀)
    (s1 s2 s3 : DmaSems sig S_) (hok : (k0_t1_loop L).OK) (init : BitVec 32)
    (body : Fin (k0_t1_loop L).trips → BitVec 32 → Prog (TpuEff nD τ sig (Elt F) Λ₀ (.scVector ((L 0).castLE hcore0) ((L 1).castLE hsub0))) (BitVec 32))
    (inbT : ∀ k a, k0_off1 L k a + S1x100000.size a ≤ S36x100000.size a)
    (inbA : ∀ k a, k0_off19 L k a + S1x8192.size a ≤ S936x16384.size a)
    (inbB : ∀ k a, k0_off37 L k a + S1x8192.size a ≤ S936x16384.size a)
    (la lb : Fin (k0_t1_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v1_scv : Memref sig .scVector .hbm S36x100000 .f32) oV sRow (Memref.isWhole_whole _) sOch (Memref.isWhole_whole _) s1 s2 s3
        (k0_off1 L k) (inbT k) (k0_off19 L k) (inbA k) (k0_off37 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t1_loop L).trips →
      (∀ y : S8192.Idx, idxA.view.read (Elt F) fa y = fx (ix2 ⟨0, by decide⟩ ⟨(y 0).val, Nat.lt_of_lt_of_le (y 0).isLt (by decide)⟩))
      ∧ (∀ y : S8192.Idx, idxB.view.read (Elt F) fb y = fx (ix2 ⟨0, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v1_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t1_loop L).trips → lo ≤ 0 + dlo (wid L) 0) (hhi : 0 < (k0_t1_loop L).trips → 0 + dlo (wid L) 0 + (k0_t1_loop L).trips ≤ hi)
    (G g0 : Buf (Elt F) (oV.view.loc (V d ((L 0).castLE hcore0) ((L 1).castLE hsub0))))
    (hG : ∀ x : S936x16384.Idx, 0 + dlo (wid L) 0 ≤ (x 0).val → (x 0).val < 0 + dlo (wid L) 0 + (k0_t1_loop L).trips →
      G x = ft (tIx (x 0).val (fx (ix2 ⟨0, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v1_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (0 + dlo (wid L) 0) 0 init
        ∗ (∀ acc, rowsInv (F := F) ((L 0).castLE hcore0) ((L 1).castLE hsub0) d (Memref.whole main_v1_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (0 + dlo (wid L) 0) (k0_t1_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t1_loop L) hok init body >>= kk) Q := by
  have htr := t1_trips L
  have h1 := dlo_le_dhi (wid L) 0
  have h2 := dhi_le (wid L) 0
  exact field_loop (F := F) ((L 0).castLE hcore0) ((L 1).castLE hsub0) defs d (Memref.whole main_v1_scv : Memref sig .scVector .hbm S36x100000 .f32) (Memref.isWhole_whole _) s1 s2 s3 (k0_t1_loop L) hok init body
    (k0_off1 L) inbT (k0_off19 L) inbA (k0_off37 L) inbB la lb hbody idxA idxB fa fb (fun b => fx (ix2 ⟨0, by decide⟩ b)) hla hlb hidx
    O W0 q ft ft (src_read_1 (F := F) d ((L 0).castLE hcore0) ((L 1).castLE hsub0) ft) Tset lo hi hT G g0 0 (dlo (wid L) 0) (0 + dlo (wid L) 0)
    rfl (by decide) (by omega) hlo hhi (off1_eq L) (off19_eq L) (off37_eq L) hG kk Q

/-- Field 1's loop over its rows: the rows `[36 + dlo, 36 + dhi)` of the output array end at `G`. -/
theorem dloop_1 (L : grid0.Coords) (d : Dev nD) (defs : Defs nD τ sig (Elt F) Λ₀)
    (s1 s2 s3 : DmaSems sig S_) (hok : (k0_t7_loop L).OK) (init : BitVec 32)
    (body : Fin (k0_t7_loop L).trips → BitVec 32 → Prog (TpuEff nD τ sig (Elt F) Λ₀ (.scVector ((L 0).castLE hcore0) ((L 1).castLE hsub0))) (BitVec 32))
    (inbT : ∀ k a, k0_off75 L k a + S1x100000.size a ≤ S36x100000.size a)
    (inbA : ∀ k a, k0_off93 L k a + S1x8192.size a ≤ S936x16384.size a)
    (inbB : ∀ k a, k0_off111 L k a + S1x8192.size a ≤ S936x16384.size a)
    (la lb : Fin (k0_t7_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v2_scv : Memref sig .scVector .hbm S36x100000 .f32) oV sRow (Memref.isWhole_whole _) sOch (Memref.isWhole_whole _) s1 s2 s3
        (k0_off75 L k) (inbT k) (k0_off93 L k) (inbA k) (k0_off111 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t7_loop L).trips →
      (∀ y : S8192.Idx, idxA.view.read (Elt F) fa y = fx (ix2 ⟨1, by decide⟩ ⟨(y 0).val, Nat.lt_of_lt_of_le (y 0).isLt (by decide)⟩))
      ∧ (∀ y : S8192.Idx, idxB.view.read (Elt F) fb y = fx (ix2 ⟨1, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v2_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t7_loop L).trips → lo ≤ 36 + dlo (wid L) 1) (hhi : 0 < (k0_t7_loop L).trips → 36 + dlo (wid L) 1 + (k0_t7_loop L).trips ≤ hi)
    (G g0 : Buf (Elt F) (oV.view.loc (V d ((L 0).castLE hcore0) ((L 1).castLE hsub0))))
    (hG : ∀ x : S936x16384.Idx, 36 + dlo (wid L) 1 ≤ (x 0).val → (x 0).val < 36 + dlo (wid L) 1 + (k0_t7_loop L).trips →
      G x = ft (tIx (x 0).val (fx (ix2 ⟨1, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v2_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (36 + dlo (wid L) 1) 0 init
        ∗ (∀ acc, rowsInv (F := F) ((L 0).castLE hcore0) ((L 1).castLE hsub0) d (Memref.whole main_v2_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (36 + dlo (wid L) 1) (k0_t7_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t7_loop L) hok init body >>= kk) Q := by
  have htr := t7_trips L
  have h1 := dlo_le_dhi (wid L) 1
  have h2 := dhi_le (wid L) 1
  exact field_loop (F := F) ((L 0).castLE hcore0) ((L 1).castLE hsub0) defs d (Memref.whole main_v2_scv : Memref sig .scVector .hbm S36x100000 .f32) (Memref.isWhole_whole _) s1 s2 s3 (k0_t7_loop L) hok init body
    (k0_off75 L) inbT (k0_off93 L) inbA (k0_off111 L) inbB la lb hbody idxA idxB fa fb (fun b => fx (ix2 ⟨1, by decide⟩ b)) hla hlb hidx
    O W0 q ft ft (src_read_2 (F := F) d ((L 0).castLE hcore0) ((L 1).castLE hsub0) ft) Tset lo hi hT G g0 36 (dlo (wid L) 1) (36 + dlo (wid L) 1)
    rfl (by decide) (by omega) hlo hhi (off75_eq L) (off93_eq L) (off111_eq L) hG kk Q

/-- Field 2's loop over its rows: the rows `[72 + dlo, 72 + dhi)` of the output array end at `G`. -/
theorem dloop_2 (L : grid0.Coords) (d : Dev nD) (defs : Defs nD τ sig (Elt F) Λ₀)
    (s1 s2 s3 : DmaSems sig S_) (hok : (k0_t13_loop L).OK) (init : BitVec 32)
    (body : Fin (k0_t13_loop L).trips → BitVec 32 → Prog (TpuEff nD τ sig (Elt F) Λ₀ (.scVector ((L 0).castLE hcore0) ((L 1).castLE hsub0))) (BitVec 32))
    (inbT : ∀ k a, k0_off149 L k a + S1x100000.size a ≤ S36x100000.size a)
    (inbA : ∀ k a, k0_off167 L k a + S1x8192.size a ≤ S936x16384.size a)
    (inbB : ∀ k a, k0_off185 L k a + S1x8192.size a ≤ S936x16384.size a)
    (la lb : Fin (k0_t13_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v3_scv : Memref sig .scVector .hbm S36x100000 .f32) oV sRow (Memref.isWhole_whole _) sOch (Memref.isWhole_whole _) s1 s2 s3
        (k0_off149 L k) (inbT k) (k0_off167 L k) (inbA k) (k0_off185 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t13_loop L).trips →
      (∀ y : S8192.Idx, idxA.view.read (Elt F) fa y = fx (ix2 ⟨2, by decide⟩ ⟨(y 0).val, Nat.lt_of_lt_of_le (y 0).isLt (by decide)⟩))
      ∧ (∀ y : S8192.Idx, idxB.view.read (Elt F) fb y = fx (ix2 ⟨2, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v3_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t13_loop L).trips → lo ≤ 72 + dlo (wid L) 2) (hhi : 0 < (k0_t13_loop L).trips → 72 + dlo (wid L) 2 + (k0_t13_loop L).trips ≤ hi)
    (G g0 : Buf (Elt F) (oV.view.loc (V d ((L 0).castLE hcore0) ((L 1).castLE hsub0))))
    (hG : ∀ x : S936x16384.Idx, 72 + dlo (wid L) 2 ≤ (x 0).val → (x 0).val < 72 + dlo (wid L) 2 + (k0_t13_loop L).trips →
      G x = ft (tIx (x 0).val (fx (ix2 ⟨2, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v3_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (72 + dlo (wid L) 2) 0 init
        ∗ (∀ acc, rowsInv (F := F) ((L 0).castLE hcore0) ((L 1).castLE hsub0) d (Memref.whole main_v3_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (72 + dlo (wid L) 2) (k0_t13_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t13_loop L) hok init body >>= kk) Q := by
  have htr := t13_trips L
  have h1 := dlo_le_dhi (wid L) 2
  have h2 := dhi_le (wid L) 2
  exact field_loop (F := F) ((L 0).castLE hcore0) ((L 1).castLE hsub0) defs d (Memref.whole main_v3_scv : Memref sig .scVector .hbm S36x100000 .f32) (Memref.isWhole_whole _) s1 s2 s3 (k0_t13_loop L) hok init body
    (k0_off149 L) inbT (k0_off167 L) inbA (k0_off185 L) inbB la lb hbody idxA idxB fa fb (fun b => fx (ix2 ⟨2, by decide⟩ b)) hla hlb hidx
    O W0 q ft ft (src_read_3 (F := F) d ((L 0).castLE hcore0) ((L 1).castLE hsub0) ft) Tset lo hi hT G g0 72 (dlo (wid L) 2) (72 + dlo (wid L) 2)
    rfl (by decide) (by omega) hlo hhi (off149_eq L) (off167_eq L) (off185_eq L) hG kk Q

/-- Field 3's loop over its rows: the rows `[108 + dlo, 108 + dhi)` of the output array end at `G`. -/
theorem dloop_3 (L : grid0.Coords) (d : Dev nD) (defs : Defs nD τ sig (Elt F) Λ₀)
    (s1 s2 s3 : DmaSems sig S_) (hok : (k0_t19_loop L).OK) (init : BitVec 32)
    (body : Fin (k0_t19_loop L).trips → BitVec 32 → Prog (TpuEff nD τ sig (Elt F) Λ₀ (.scVector ((L 0).castLE hcore0) ((L 1).castLE hsub0))) (BitVec 32))
    (inbT : ∀ k a, k0_off223 L k a + S1x100000.size a ≤ S36x100000.size a)
    (inbA : ∀ k a, k0_off241 L k a + S1x8192.size a ≤ S936x16384.size a)
    (inbB : ∀ k a, k0_off259 L k a + S1x8192.size a ≤ S936x16384.size a)
    (la lb : Fin (k0_t19_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v4_scv : Memref sig .scVector .hbm S36x100000 .f32) oV sRow (Memref.isWhole_whole _) sOch (Memref.isWhole_whole _) s1 s2 s3
        (k0_off223 L k) (inbT k) (k0_off241 L k) (inbA k) (k0_off259 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t19_loop L).trips →
      (∀ y : S8192.Idx, idxA.view.read (Elt F) fa y = fx (ix2 ⟨3, by decide⟩ ⟨(y 0).val, Nat.lt_of_lt_of_le (y 0).isLt (by decide)⟩))
      ∧ (∀ y : S8192.Idx, idxB.view.read (Elt F) fb y = fx (ix2 ⟨3, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v4_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t19_loop L).trips → lo ≤ 108 + dlo (wid L) 3) (hhi : 0 < (k0_t19_loop L).trips → 108 + dlo (wid L) 3 + (k0_t19_loop L).trips ≤ hi)
    (G g0 : Buf (Elt F) (oV.view.loc (V d ((L 0).castLE hcore0) ((L 1).castLE hsub0))))
    (hG : ∀ x : S936x16384.Idx, 108 + dlo (wid L) 3 ≤ (x 0).val → (x 0).val < 108 + dlo (wid L) 3 + (k0_t19_loop L).trips →
      G x = ft (tIx (x 0).val (fx (ix2 ⟨3, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v4_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (108 + dlo (wid L) 3) 0 init
        ∗ (∀ acc, rowsInv (F := F) ((L 0).castLE hcore0) ((L 1).castLE hsub0) d (Memref.whole main_v4_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (108 + dlo (wid L) 3) (k0_t19_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t19_loop L) hok init body >>= kk) Q := by
  have htr := t19_trips L
  have h1 := dlo_le_dhi (wid L) 3
  have h2 := dhi_le (wid L) 3
  exact field_loop (F := F) ((L 0).castLE hcore0) ((L 1).castLE hsub0) defs d (Memref.whole main_v4_scv : Memref sig .scVector .hbm S36x100000 .f32) (Memref.isWhole_whole _) s1 s2 s3 (k0_t19_loop L) hok init body
    (k0_off223 L) inbT (k0_off241 L) inbA (k0_off259 L) inbB la lb hbody idxA idxB fa fb (fun b => fx (ix2 ⟨3, by decide⟩ b)) hla hlb hidx
    O W0 q ft ft (src_read_4 (F := F) d ((L 0).castLE hcore0) ((L 1).castLE hsub0) ft) Tset lo hi hT G g0 108 (dlo (wid L) 3) (108 + dlo (wid L) 3)
    rfl (by decide) (by omega) hlo hhi (off223_eq L) (off241_eq L) (off259_eq L) hG kk Q

/-- Field 4's loop over its rows: the rows `[144 + dlo, 144 + dhi)` of the output array end at `G`. -/
theorem dloop_4 (L : grid0.Coords) (d : Dev nD) (defs : Defs nD τ sig (Elt F) Λ₀)
    (s1 s2 s3 : DmaSems sig S_) (hok : (k0_t25_loop L).OK) (init : BitVec 32)
    (body : Fin (k0_t25_loop L).trips → BitVec 32 → Prog (TpuEff nD τ sig (Elt F) Λ₀ (.scVector ((L 0).castLE hcore0) ((L 1).castLE hsub0))) (BitVec 32))
    (inbT : ∀ k a, k0_off297 L k a + S1x100000.size a ≤ S36x100000.size a)
    (inbA : ∀ k a, k0_off315 L k a + S1x8192.size a ≤ S936x16384.size a)
    (inbB : ∀ k a, k0_off333 L k a + S1x8192.size a ≤ S936x16384.size a)
    (la lb : Fin (k0_t25_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v5_scv : Memref sig .scVector .hbm S36x100000 .f32) oV sRow (Memref.isWhole_whole _) sOch (Memref.isWhole_whole _) s1 s2 s3
        (k0_off297 L k) (inbT k) (k0_off315 L k) (inbA k) (k0_off333 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t25_loop L).trips →
      (∀ y : S8192.Idx, idxA.view.read (Elt F) fa y = fx (ix2 ⟨4, by decide⟩ ⟨(y 0).val, Nat.lt_of_lt_of_le (y 0).isLt (by decide)⟩))
      ∧ (∀ y : S8192.Idx, idxB.view.read (Elt F) fb y = fx (ix2 ⟨4, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v5_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t25_loop L).trips → lo ≤ 144 + dlo (wid L) 4) (hhi : 0 < (k0_t25_loop L).trips → 144 + dlo (wid L) 4 + (k0_t25_loop L).trips ≤ hi)
    (G g0 : Buf (Elt F) (oV.view.loc (V d ((L 0).castLE hcore0) ((L 1).castLE hsub0))))
    (hG : ∀ x : S936x16384.Idx, 144 + dlo (wid L) 4 ≤ (x 0).val → (x 0).val < 144 + dlo (wid L) 4 + (k0_t25_loop L).trips →
      G x = ft (tIx (x 0).val (fx (ix2 ⟨4, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v5_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (144 + dlo (wid L) 4) 0 init
        ∗ (∀ acc, rowsInv (F := F) ((L 0).castLE hcore0) ((L 1).castLE hsub0) d (Memref.whole main_v5_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (144 + dlo (wid L) 4) (k0_t25_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t25_loop L) hok init body >>= kk) Q := by
  have htr := t25_trips L
  have h1 := dlo_le_dhi (wid L) 4
  have h2 := dhi_le (wid L) 4
  exact field_loop (F := F) ((L 0).castLE hcore0) ((L 1).castLE hsub0) defs d (Memref.whole main_v5_scv : Memref sig .scVector .hbm S36x100000 .f32) (Memref.isWhole_whole _) s1 s2 s3 (k0_t25_loop L) hok init body
    (k0_off297 L) inbT (k0_off315 L) inbA (k0_off333 L) inbB la lb hbody idxA idxB fa fb (fun b => fx (ix2 ⟨4, by decide⟩ b)) hla hlb hidx
    O W0 q ft ft (src_read_5 (F := F) d ((L 0).castLE hcore0) ((L 1).castLE hsub0) ft) Tset lo hi hT G g0 144 (dlo (wid L) 4) (144 + dlo (wid L) 4)
    rfl (by decide) (by omega) hlo hhi (off297_eq L) (off315_eq L) (off333_eq L) hG kk Q

/-- Field 5's loop over its rows: the rows `[180 + dlo, 180 + dhi)` of the output array end at `G`. -/
theorem dloop_5 (L : grid0.Coords) (d : Dev nD) (defs : Defs nD τ sig (Elt F) Λ₀)
    (s1 s2 s3 : DmaSems sig S_) (hok : (k0_t31_loop L).OK) (init : BitVec 32)
    (body : Fin (k0_t31_loop L).trips → BitVec 32 → Prog (TpuEff nD τ sig (Elt F) Λ₀ (.scVector ((L 0).castLE hcore0) ((L 1).castLE hsub0))) (BitVec 32))
    (inbT : ∀ k a, k0_off371 L k a + S1x100000.size a ≤ S36x100000.size a)
    (inbA : ∀ k a, k0_off389 L k a + S1x8192.size a ≤ S936x16384.size a)
    (inbB : ∀ k a, k0_off407 L k a + S1x8192.size a ≤ S936x16384.size a)
    (la lb : Fin (k0_t31_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v6_scv : Memref sig .scVector .hbm S36x100000 .f32) oV sRow (Memref.isWhole_whole _) sOch (Memref.isWhole_whole _) s1 s2 s3
        (k0_off371 L k) (inbT k) (k0_off389 L k) (inbA k) (k0_off407 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t31_loop L).trips →
      (∀ y : S8192.Idx, idxA.view.read (Elt F) fa y = fx (ix2 ⟨5, by decide⟩ ⟨(y 0).val, Nat.lt_of_lt_of_le (y 0).isLt (by decide)⟩))
      ∧ (∀ y : S8192.Idx, idxB.view.read (Elt F) fb y = fx (ix2 ⟨5, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v6_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t31_loop L).trips → lo ≤ 180 + dlo (wid L) 5) (hhi : 0 < (k0_t31_loop L).trips → 180 + dlo (wid L) 5 + (k0_t31_loop L).trips ≤ hi)
    (G g0 : Buf (Elt F) (oV.view.loc (V d ((L 0).castLE hcore0) ((L 1).castLE hsub0))))
    (hG : ∀ x : S936x16384.Idx, 180 + dlo (wid L) 5 ≤ (x 0).val → (x 0).val < 180 + dlo (wid L) 5 + (k0_t31_loop L).trips →
      G x = ft (tIx (x 0).val (fx (ix2 ⟨5, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v6_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (180 + dlo (wid L) 5) 0 init
        ∗ (∀ acc, rowsInv (F := F) ((L 0).castLE hcore0) ((L 1).castLE hsub0) d (Memref.whole main_v6_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (180 + dlo (wid L) 5) (k0_t31_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t31_loop L) hok init body >>= kk) Q := by
  have htr := t31_trips L
  have h1 := dlo_le_dhi (wid L) 5
  have h2 := dhi_le (wid L) 5
  exact field_loop (F := F) ((L 0).castLE hcore0) ((L 1).castLE hsub0) defs d (Memref.whole main_v6_scv : Memref sig .scVector .hbm S36x100000 .f32) (Memref.isWhole_whole _) s1 s2 s3 (k0_t31_loop L) hok init body
    (k0_off371 L) inbT (k0_off389 L) inbA (k0_off407 L) inbB la lb hbody idxA idxB fa fb (fun b => fx (ix2 ⟨5, by decide⟩ b)) hla hlb hidx
    O W0 q ft ft (src_read_6 (F := F) d ((L 0).castLE hcore0) ((L 1).castLE hsub0) ft) Tset lo hi hT G g0 180 (dlo (wid L) 5) (180 + dlo (wid L) 5)
    rfl (by decide) (by omega) hlo hhi (off371_eq L) (off389_eq L) (off407_eq L) hG kk Q

/-- Field 6's loop over its rows: the rows `[216 + dlo, 216 + dhi)` of the output array end at `G`. -/
theorem dloop_6 (L : grid0.Coords) (d : Dev nD) (defs : Defs nD τ sig (Elt F) Λ₀)
    (s1 s2 s3 : DmaSems sig S_) (hok : (k0_t37_loop L).OK) (init : BitVec 32)
    (body : Fin (k0_t37_loop L).trips → BitVec 32 → Prog (TpuEff nD τ sig (Elt F) Λ₀ (.scVector ((L 0).castLE hcore0) ((L 1).castLE hsub0))) (BitVec 32))
    (inbT : ∀ k a, k0_off445 L k a + S1x100000.size a ≤ S36x100000.size a)
    (inbA : ∀ k a, k0_off463 L k a + S1x8192.size a ≤ S936x16384.size a)
    (inbB : ∀ k a, k0_off481 L k a + S1x8192.size a ≤ S936x16384.size a)
    (la lb : Fin (k0_t37_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v7_scv : Memref sig .scVector .hbm S36x100000 .f32) oV sRow (Memref.isWhole_whole _) sOch (Memref.isWhole_whole _) s1 s2 s3
        (k0_off445 L k) (inbT k) (k0_off463 L k) (inbA k) (k0_off481 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t37_loop L).trips →
      (∀ y : S8192.Idx, idxA.view.read (Elt F) fa y = fx (ix2 ⟨6, by decide⟩ ⟨(y 0).val, Nat.lt_of_lt_of_le (y 0).isLt (by decide)⟩))
      ∧ (∀ y : S8192.Idx, idxB.view.read (Elt F) fb y = fx (ix2 ⟨6, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v7_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t37_loop L).trips → lo ≤ 216 + dlo (wid L) 6) (hhi : 0 < (k0_t37_loop L).trips → 216 + dlo (wid L) 6 + (k0_t37_loop L).trips ≤ hi)
    (G g0 : Buf (Elt F) (oV.view.loc (V d ((L 0).castLE hcore0) ((L 1).castLE hsub0))))
    (hG : ∀ x : S936x16384.Idx, 216 + dlo (wid L) 6 ≤ (x 0).val → (x 0).val < 216 + dlo (wid L) 6 + (k0_t37_loop L).trips →
      G x = ft (tIx (x 0).val (fx (ix2 ⟨6, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v7_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (216 + dlo (wid L) 6) 0 init
        ∗ (∀ acc, rowsInv (F := F) ((L 0).castLE hcore0) ((L 1).castLE hsub0) d (Memref.whole main_v7_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (216 + dlo (wid L) 6) (k0_t37_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t37_loop L) hok init body >>= kk) Q := by
  have htr := t37_trips L
  have h1 := dlo_le_dhi (wid L) 6
  have h2 := dhi_le (wid L) 6
  exact field_loop (F := F) ((L 0).castLE hcore0) ((L 1).castLE hsub0) defs d (Memref.whole main_v7_scv : Memref sig .scVector .hbm S36x100000 .f32) (Memref.isWhole_whole _) s1 s2 s3 (k0_t37_loop L) hok init body
    (k0_off445 L) inbT (k0_off463 L) inbA (k0_off481 L) inbB la lb hbody idxA idxB fa fb (fun b => fx (ix2 ⟨6, by decide⟩ b)) hla hlb hidx
    O W0 q ft ft (src_read_7 (F := F) d ((L 0).castLE hcore0) ((L 1).castLE hsub0) ft) Tset lo hi hT G g0 216 (dlo (wid L) 6) (216 + dlo (wid L) 6)
    rfl (by decide) (by omega) hlo hhi (off445_eq L) (off463_eq L) (off481_eq L) hG kk Q

/-- Field 7's loop over its rows: the rows `[252 + dlo, 252 + dhi)` of the output array end at `G`. -/
theorem dloop_7 (L : grid0.Coords) (d : Dev nD) (defs : Defs nD τ sig (Elt F) Λ₀)
    (s1 s2 s3 : DmaSems sig S_) (hok : (k0_t43_loop L).OK) (init : BitVec 32)
    (body : Fin (k0_t43_loop L).trips → BitVec 32 → Prog (TpuEff nD τ sig (Elt F) Λ₀ (.scVector ((L 0).castLE hcore0) ((L 1).castLE hsub0))) (BitVec 32))
    (inbT : ∀ k a, k0_off519 L k a + S1x100000.size a ≤ S36x100000.size a)
    (inbA : ∀ k a, k0_off537 L k a + S1x8192.size a ≤ S936x16384.size a)
    (inbB : ∀ k a, k0_off555 L k a + S1x8192.size a ≤ S936x16384.size a)
    (la lb : Fin (k0_t43_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v8_scv : Memref sig .scVector .hbm S36x100000 .f32) oV sRow (Memref.isWhole_whole _) sOch (Memref.isWhole_whole _) s1 s2 s3
        (k0_off519 L k) (inbT k) (k0_off537 L k) (inbA k) (k0_off555 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t43_loop L).trips →
      (∀ y : S8192.Idx, idxA.view.read (Elt F) fa y = fx (ix2 ⟨7, by decide⟩ ⟨(y 0).val, Nat.lt_of_lt_of_le (y 0).isLt (by decide)⟩))
      ∧ (∀ y : S8192.Idx, idxB.view.read (Elt F) fb y = fx (ix2 ⟨7, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v8_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t43_loop L).trips → lo ≤ 252 + dlo (wid L) 7) (hhi : 0 < (k0_t43_loop L).trips → 252 + dlo (wid L) 7 + (k0_t43_loop L).trips ≤ hi)
    (G g0 : Buf (Elt F) (oV.view.loc (V d ((L 0).castLE hcore0) ((L 1).castLE hsub0))))
    (hG : ∀ x : S936x16384.Idx, 252 + dlo (wid L) 7 ≤ (x 0).val → (x 0).val < 252 + dlo (wid L) 7 + (k0_t43_loop L).trips →
      G x = ft (tIx (x 0).val (fx (ix2 ⟨7, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v8_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (252 + dlo (wid L) 7) 0 init
        ∗ (∀ acc, rowsInv (F := F) ((L 0).castLE hcore0) ((L 1).castLE hsub0) d (Memref.whole main_v8_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (252 + dlo (wid L) 7) (k0_t43_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t43_loop L) hok init body >>= kk) Q := by
  have htr := t43_trips L
  have h1 := dlo_le_dhi (wid L) 7
  have h2 := dhi_le (wid L) 7
  exact field_loop (F := F) ((L 0).castLE hcore0) ((L 1).castLE hsub0) defs d (Memref.whole main_v8_scv : Memref sig .scVector .hbm S36x100000 .f32) (Memref.isWhole_whole _) s1 s2 s3 (k0_t43_loop L) hok init body
    (k0_off519 L) inbT (k0_off537 L) inbA (k0_off555 L) inbB la lb hbody idxA idxB fa fb (fun b => fx (ix2 ⟨7, by decide⟩ b)) hla hlb hidx
    O W0 q ft ft (src_read_8 (F := F) d ((L 0).castLE hcore0) ((L 1).castLE hsub0) ft) Tset lo hi hT G g0 252 (dlo (wid L) 7) (252 + dlo (wid L) 7)
    rfl (by decide) (by omega) hlo hhi (off519_eq L) (off537_eq L) (off555_eq L) hG kk Q

/-- Field 8's loop over its rows: the rows `[288 + dlo, 288 + dhi)` of the output array end at `G`. -/
theorem dloop_8 (L : grid0.Coords) (d : Dev nD) (defs : Defs nD τ sig (Elt F) Λ₀)
    (s1 s2 s3 : DmaSems sig S_) (hok : (k0_t49_loop L).OK) (init : BitVec 32)
    (body : Fin (k0_t49_loop L).trips → BitVec 32 → Prog (TpuEff nD τ sig (Elt F) Λ₀ (.scVector ((L 0).castLE hcore0) ((L 1).castLE hsub0))) (BitVec 32))
    (inbT : ∀ k a, k0_off593 L k a + S1x100000.size a ≤ S36x100000.size a)
    (inbA : ∀ k a, k0_off611 L k a + S1x8192.size a ≤ S936x16384.size a)
    (inbB : ∀ k a, k0_off629 L k a + S1x8192.size a ≤ S936x16384.size a)
    (la lb : Fin (k0_t49_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v9_scv : Memref sig .scVector .hbm S36x100000 .f32) oV sRow (Memref.isWhole_whole _) sOch (Memref.isWhole_whole _) s1 s2 s3
        (k0_off593 L k) (inbT k) (k0_off611 L k) (inbA k) (k0_off629 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t49_loop L).trips →
      (∀ y : S8192.Idx, idxA.view.read (Elt F) fa y = fx (ix2 ⟨8, by decide⟩ ⟨(y 0).val, Nat.lt_of_lt_of_le (y 0).isLt (by decide)⟩))
      ∧ (∀ y : S8192.Idx, idxB.view.read (Elt F) fb y = fx (ix2 ⟨8, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v9_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t49_loop L).trips → lo ≤ 288 + dlo (wid L) 8) (hhi : 0 < (k0_t49_loop L).trips → 288 + dlo (wid L) 8 + (k0_t49_loop L).trips ≤ hi)
    (G g0 : Buf (Elt F) (oV.view.loc (V d ((L 0).castLE hcore0) ((L 1).castLE hsub0))))
    (hG : ∀ x : S936x16384.Idx, 288 + dlo (wid L) 8 ≤ (x 0).val → (x 0).val < 288 + dlo (wid L) 8 + (k0_t49_loop L).trips →
      G x = ft (tIx (x 0).val (fx (ix2 ⟨8, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v9_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (288 + dlo (wid L) 8) 0 init
        ∗ (∀ acc, rowsInv (F := F) ((L 0).castLE hcore0) ((L 1).castLE hsub0) d (Memref.whole main_v9_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (288 + dlo (wid L) 8) (k0_t49_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t49_loop L) hok init body >>= kk) Q := by
  have htr := t49_trips L
  have h1 := dlo_le_dhi (wid L) 8
  have h2 := dhi_le (wid L) 8
  exact field_loop (F := F) ((L 0).castLE hcore0) ((L 1).castLE hsub0) defs d (Memref.whole main_v9_scv : Memref sig .scVector .hbm S36x100000 .f32) (Memref.isWhole_whole _) s1 s2 s3 (k0_t49_loop L) hok init body
    (k0_off593 L) inbT (k0_off611 L) inbA (k0_off629 L) inbB la lb hbody idxA idxB fa fb (fun b => fx (ix2 ⟨8, by decide⟩ b)) hla hlb hidx
    O W0 q ft ft (src_read_9 (F := F) d ((L 0).castLE hcore0) ((L 1).castLE hsub0) ft) Tset lo hi hT G g0 288 (dlo (wid L) 8) (288 + dlo (wid L) 8)
    rfl (by decide) (by omega) hlo hhi (off593_eq L) (off611_eq L) (off629_eq L) hG kk Q

/-- Field 9's loop over its rows: the rows `[324 + dlo, 324 + dhi)` of the output array end at `G`. -/
theorem dloop_9 (L : grid0.Coords) (d : Dev nD) (defs : Defs nD τ sig (Elt F) Λ₀)
    (s1 s2 s3 : DmaSems sig S_) (hok : (k0_t55_loop L).OK) (init : BitVec 32)
    (body : Fin (k0_t55_loop L).trips → BitVec 32 → Prog (TpuEff nD τ sig (Elt F) Λ₀ (.scVector ((L 0).castLE hcore0) ((L 1).castLE hsub0))) (BitVec 32))
    (inbT : ∀ k a, k0_off667 L k a + S1x100000.size a ≤ S36x100000.size a)
    (inbA : ∀ k a, k0_off685 L k a + S1x8192.size a ≤ S936x16384.size a)
    (inbB : ∀ k a, k0_off703 L k a + S1x8192.size a ≤ S936x16384.size a)
    (la lb : Fin (k0_t55_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v10_scv : Memref sig .scVector .hbm S36x100000 .f32) oV sRow (Memref.isWhole_whole _) sOch (Memref.isWhole_whole _) s1 s2 s3
        (k0_off667 L k) (inbT k) (k0_off685 L k) (inbA k) (k0_off703 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t55_loop L).trips →
      (∀ y : S8192.Idx, idxA.view.read (Elt F) fa y = fx (ix2 ⟨9, by decide⟩ ⟨(y 0).val, Nat.lt_of_lt_of_le (y 0).isLt (by decide)⟩))
      ∧ (∀ y : S8192.Idx, idxB.view.read (Elt F) fb y = fx (ix2 ⟨9, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v10_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t55_loop L).trips → lo ≤ 324 + dlo (wid L) 9) (hhi : 0 < (k0_t55_loop L).trips → 324 + dlo (wid L) 9 + (k0_t55_loop L).trips ≤ hi)
    (G g0 : Buf (Elt F) (oV.view.loc (V d ((L 0).castLE hcore0) ((L 1).castLE hsub0))))
    (hG : ∀ x : S936x16384.Idx, 324 + dlo (wid L) 9 ≤ (x 0).val → (x 0).val < 324 + dlo (wid L) 9 + (k0_t55_loop L).trips →
      G x = ft (tIx (x 0).val (fx (ix2 ⟨9, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v10_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (324 + dlo (wid L) 9) 0 init
        ∗ (∀ acc, rowsInv (F := F) ((L 0).castLE hcore0) ((L 1).castLE hsub0) d (Memref.whole main_v10_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (324 + dlo (wid L) 9) (k0_t55_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t55_loop L) hok init body >>= kk) Q := by
  have htr := t55_trips L
  have h1 := dlo_le_dhi (wid L) 9
  have h2 := dhi_le (wid L) 9
  exact field_loop (F := F) ((L 0).castLE hcore0) ((L 1).castLE hsub0) defs d (Memref.whole main_v10_scv : Memref sig .scVector .hbm S36x100000 .f32) (Memref.isWhole_whole _) s1 s2 s3 (k0_t55_loop L) hok init body
    (k0_off667 L) inbT (k0_off685 L) inbA (k0_off703 L) inbB la lb hbody idxA idxB fa fb (fun b => fx (ix2 ⟨9, by decide⟩ b)) hla hlb hidx
    O W0 q ft ft (src_read_10 (F := F) d ((L 0).castLE hcore0) ((L 1).castLE hsub0) ft) Tset lo hi hT G g0 324 (dlo (wid L) 9) (324 + dlo (wid L) 9)
    rfl (by decide) (by omega) hlo hhi (off667_eq L) (off685_eq L) (off703_eq L) hG kk Q

/-- Field 10's loop over its rows: the rows `[360 + dlo, 360 + dhi)` of the output array end at `G`. -/
theorem dloop_10 (L : grid0.Coords) (d : Dev nD) (defs : Defs nD τ sig (Elt F) Λ₀)
    (s1 s2 s3 : DmaSems sig S_) (hok : (k0_t61_loop L).OK) (init : BitVec 32)
    (body : Fin (k0_t61_loop L).trips → BitVec 32 → Prog (TpuEff nD τ sig (Elt F) Λ₀ (.scVector ((L 0).castLE hcore0) ((L 1).castLE hsub0))) (BitVec 32))
    (inbT : ∀ k a, k0_off741 L k a + S1x100000.size a ≤ S36x100000.size a)
    (inbA : ∀ k a, k0_off759 L k a + S1x8192.size a ≤ S936x16384.size a)
    (inbB : ∀ k a, k0_off777 L k a + S1x8192.size a ≤ S936x16384.size a)
    (la lb : Fin (k0_t61_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v11_scv : Memref sig .scVector .hbm S36x100000 .f32) oV sRow (Memref.isWhole_whole _) sOch (Memref.isWhole_whole _) s1 s2 s3
        (k0_off741 L k) (inbT k) (k0_off759 L k) (inbA k) (k0_off777 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t61_loop L).trips →
      (∀ y : S8192.Idx, idxA.view.read (Elt F) fa y = fx (ix2 ⟨10, by decide⟩ ⟨(y 0).val, Nat.lt_of_lt_of_le (y 0).isLt (by decide)⟩))
      ∧ (∀ y : S8192.Idx, idxB.view.read (Elt F) fb y = fx (ix2 ⟨10, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v11_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t61_loop L).trips → lo ≤ 360 + dlo (wid L) 10) (hhi : 0 < (k0_t61_loop L).trips → 360 + dlo (wid L) 10 + (k0_t61_loop L).trips ≤ hi)
    (G g0 : Buf (Elt F) (oV.view.loc (V d ((L 0).castLE hcore0) ((L 1).castLE hsub0))))
    (hG : ∀ x : S936x16384.Idx, 360 + dlo (wid L) 10 ≤ (x 0).val → (x 0).val < 360 + dlo (wid L) 10 + (k0_t61_loop L).trips →
      G x = ft (tIx (x 0).val (fx (ix2 ⟨10, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v11_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (360 + dlo (wid L) 10) 0 init
        ∗ (∀ acc, rowsInv (F := F) ((L 0).castLE hcore0) ((L 1).castLE hsub0) d (Memref.whole main_v11_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (360 + dlo (wid L) 10) (k0_t61_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t61_loop L) hok init body >>= kk) Q := by
  have htr := t61_trips L
  have h1 := dlo_le_dhi (wid L) 10
  have h2 := dhi_le (wid L) 10
  exact field_loop (F := F) ((L 0).castLE hcore0) ((L 1).castLE hsub0) defs d (Memref.whole main_v11_scv : Memref sig .scVector .hbm S36x100000 .f32) (Memref.isWhole_whole _) s1 s2 s3 (k0_t61_loop L) hok init body
    (k0_off741 L) inbT (k0_off759 L) inbA (k0_off777 L) inbB la lb hbody idxA idxB fa fb (fun b => fx (ix2 ⟨10, by decide⟩ b)) hla hlb hidx
    O W0 q ft ft (src_read_11 (F := F) d ((L 0).castLE hcore0) ((L 1).castLE hsub0) ft) Tset lo hi hT G g0 360 (dlo (wid L) 10) (360 + dlo (wid L) 10)
    rfl (by decide) (by omega) hlo hhi (off741_eq L) (off759_eq L) (off777_eq L) hG kk Q

/-- Field 11's loop over its rows: the rows `[396 + dlo, 396 + dhi)` of the output array end at `G`. -/
theorem dloop_11 (L : grid0.Coords) (d : Dev nD) (defs : Defs nD τ sig (Elt F) Λ₀)
    (s1 s2 s3 : DmaSems sig S_) (hok : (k0_t67_loop L).OK) (init : BitVec 32)
    (body : Fin (k0_t67_loop L).trips → BitVec 32 → Prog (TpuEff nD τ sig (Elt F) Λ₀ (.scVector ((L 0).castLE hcore0) ((L 1).castLE hsub0))) (BitVec 32))
    (inbT : ∀ k a, k0_off815 L k a + S1x100000.size a ≤ S36x100000.size a)
    (inbA : ∀ k a, k0_off833 L k a + S1x8192.size a ≤ S936x16384.size a)
    (inbB : ∀ k a, k0_off851 L k a + S1x8192.size a ≤ S936x16384.size a)
    (la lb : Fin (k0_t67_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v12_scv : Memref sig .scVector .hbm S36x100000 .f32) oV sRow (Memref.isWhole_whole _) sOch (Memref.isWhole_whole _) s1 s2 s3
        (k0_off815 L k) (inbT k) (k0_off833 L k) (inbA k) (k0_off851 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t67_loop L).trips →
      (∀ y : S8192.Idx, idxA.view.read (Elt F) fa y = fx (ix2 ⟨11, by decide⟩ ⟨(y 0).val, Nat.lt_of_lt_of_le (y 0).isLt (by decide)⟩))
      ∧ (∀ y : S8192.Idx, idxB.view.read (Elt F) fb y = fx (ix2 ⟨11, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v12_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t67_loop L).trips → lo ≤ 396 + dlo (wid L) 11) (hhi : 0 < (k0_t67_loop L).trips → 396 + dlo (wid L) 11 + (k0_t67_loop L).trips ≤ hi)
    (G g0 : Buf (Elt F) (oV.view.loc (V d ((L 0).castLE hcore0) ((L 1).castLE hsub0))))
    (hG : ∀ x : S936x16384.Idx, 396 + dlo (wid L) 11 ≤ (x 0).val → (x 0).val < 396 + dlo (wid L) 11 + (k0_t67_loop L).trips →
      G x = ft (tIx (x 0).val (fx (ix2 ⟨11, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v12_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (396 + dlo (wid L) 11) 0 init
        ∗ (∀ acc, rowsInv (F := F) ((L 0).castLE hcore0) ((L 1).castLE hsub0) d (Memref.whole main_v12_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (396 + dlo (wid L) 11) (k0_t67_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t67_loop L) hok init body >>= kk) Q := by
  have htr := t67_trips L
  have h1 := dlo_le_dhi (wid L) 11
  have h2 := dhi_le (wid L) 11
  exact field_loop (F := F) ((L 0).castLE hcore0) ((L 1).castLE hsub0) defs d (Memref.whole main_v12_scv : Memref sig .scVector .hbm S36x100000 .f32) (Memref.isWhole_whole _) s1 s2 s3 (k0_t67_loop L) hok init body
    (k0_off815 L) inbT (k0_off833 L) inbA (k0_off851 L) inbB la lb hbody idxA idxB fa fb (fun b => fx (ix2 ⟨11, by decide⟩ b)) hla hlb hidx
    O W0 q ft ft (src_read_12 (F := F) d ((L 0).castLE hcore0) ((L 1).castLE hsub0) ft) Tset lo hi hT G g0 396 (dlo (wid L) 11) (396 + dlo (wid L) 11)
    rfl (by decide) (by omega) hlo hhi (off815_eq L) (off833_eq L) (off851_eq L) hG kk Q

/-- Field 12's loop over its rows: the rows `[432 + dlo, 432 + dhi)` of the output array end at `G`. -/
theorem dloop_12 (L : grid0.Coords) (d : Dev nD) (defs : Defs nD τ sig (Elt F) Λ₀)
    (s1 s2 s3 : DmaSems sig S_) (hok : (k0_t73_loop L).OK) (init : BitVec 32)
    (body : Fin (k0_t73_loop L).trips → BitVec 32 → Prog (TpuEff nD τ sig (Elt F) Λ₀ (.scVector ((L 0).castLE hcore0) ((L 1).castLE hsub0))) (BitVec 32))
    (inbT : ∀ k a, k0_off889 L k a + S1x100000.size a ≤ S36x100000.size a)
    (inbA : ∀ k a, k0_off907 L k a + S1x8192.size a ≤ S936x16384.size a)
    (inbB : ∀ k a, k0_off925 L k a + S1x8192.size a ≤ S936x16384.size a)
    (la lb : Fin (k0_t73_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v13_scv : Memref sig .scVector .hbm S36x100000 .f32) oV sRow (Memref.isWhole_whole _) sOch (Memref.isWhole_whole _) s1 s2 s3
        (k0_off889 L k) (inbT k) (k0_off907 L k) (inbA k) (k0_off925 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t73_loop L).trips →
      (∀ y : S8192.Idx, idxA.view.read (Elt F) fa y = fx (ix2 ⟨12, by decide⟩ ⟨(y 0).val, Nat.lt_of_lt_of_le (y 0).isLt (by decide)⟩))
      ∧ (∀ y : S8192.Idx, idxB.view.read (Elt F) fb y = fx (ix2 ⟨12, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v13_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t73_loop L).trips → lo ≤ 432 + dlo (wid L) 12) (hhi : 0 < (k0_t73_loop L).trips → 432 + dlo (wid L) 12 + (k0_t73_loop L).trips ≤ hi)
    (G g0 : Buf (Elt F) (oV.view.loc (V d ((L 0).castLE hcore0) ((L 1).castLE hsub0))))
    (hG : ∀ x : S936x16384.Idx, 432 + dlo (wid L) 12 ≤ (x 0).val → (x 0).val < 432 + dlo (wid L) 12 + (k0_t73_loop L).trips →
      G x = ft (tIx (x 0).val (fx (ix2 ⟨12, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v13_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (432 + dlo (wid L) 12) 0 init
        ∗ (∀ acc, rowsInv (F := F) ((L 0).castLE hcore0) ((L 1).castLE hsub0) d (Memref.whole main_v13_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (432 + dlo (wid L) 12) (k0_t73_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t73_loop L) hok init body >>= kk) Q := by
  have htr := t73_trips L
  have h1 := dlo_le_dhi (wid L) 12
  have h2 := dhi_le (wid L) 12
  exact field_loop (F := F) ((L 0).castLE hcore0) ((L 1).castLE hsub0) defs d (Memref.whole main_v13_scv : Memref sig .scVector .hbm S36x100000 .f32) (Memref.isWhole_whole _) s1 s2 s3 (k0_t73_loop L) hok init body
    (k0_off889 L) inbT (k0_off907 L) inbA (k0_off925 L) inbB la lb hbody idxA idxB fa fb (fun b => fx (ix2 ⟨12, by decide⟩ b)) hla hlb hidx
    O W0 q ft ft (src_read_13 (F := F) d ((L 0).castLE hcore0) ((L 1).castLE hsub0) ft) Tset lo hi hT G g0 432 (dlo (wid L) 12) (432 + dlo (wid L) 12)
    rfl (by decide) (by omega) hlo hhi (off889_eq L) (off907_eq L) (off925_eq L) hG kk Q

/-- Field 13's loop over its rows: the rows `[468 + dlo, 468 + dhi)` of the output array end at `G`. -/
theorem dloop_13 (L : grid0.Coords) (d : Dev nD) (defs : Defs nD τ sig (Elt F) Λ₀)
    (s1 s2 s3 : DmaSems sig S_) (hok : (k0_t79_loop L).OK) (init : BitVec 32)
    (body : Fin (k0_t79_loop L).trips → BitVec 32 → Prog (TpuEff nD τ sig (Elt F) Λ₀ (.scVector ((L 0).castLE hcore0) ((L 1).castLE hsub0))) (BitVec 32))
    (inbT : ∀ k a, k0_off963 L k a + S1x100000.size a ≤ S36x100000.size a)
    (inbA : ∀ k a, k0_off981 L k a + S1x8192.size a ≤ S936x16384.size a)
    (inbB : ∀ k a, k0_off999 L k a + S1x8192.size a ≤ S936x16384.size a)
    (la lb : Fin (k0_t79_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v14_scv : Memref sig .scVector .hbm S36x100000 .f32) oV sRow (Memref.isWhole_whole _) sOch (Memref.isWhole_whole _) s1 s2 s3
        (k0_off963 L k) (inbT k) (k0_off981 L k) (inbA k) (k0_off999 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t79_loop L).trips →
      (∀ y : S8192.Idx, idxA.view.read (Elt F) fa y = fx (ix2 ⟨13, by decide⟩ ⟨(y 0).val, Nat.lt_of_lt_of_le (y 0).isLt (by decide)⟩))
      ∧ (∀ y : S8192.Idx, idxB.view.read (Elt F) fb y = fx (ix2 ⟨13, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v14_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t79_loop L).trips → lo ≤ 468 + dlo (wid L) 13) (hhi : 0 < (k0_t79_loop L).trips → 468 + dlo (wid L) 13 + (k0_t79_loop L).trips ≤ hi)
    (G g0 : Buf (Elt F) (oV.view.loc (V d ((L 0).castLE hcore0) ((L 1).castLE hsub0))))
    (hG : ∀ x : S936x16384.Idx, 468 + dlo (wid L) 13 ≤ (x 0).val → (x 0).val < 468 + dlo (wid L) 13 + (k0_t79_loop L).trips →
      G x = ft (tIx (x 0).val (fx (ix2 ⟨13, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v14_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (468 + dlo (wid L) 13) 0 init
        ∗ (∀ acc, rowsInv (F := F) ((L 0).castLE hcore0) ((L 1).castLE hsub0) d (Memref.whole main_v14_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (468 + dlo (wid L) 13) (k0_t79_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t79_loop L) hok init body >>= kk) Q := by
  have htr := t79_trips L
  have h1 := dlo_le_dhi (wid L) 13
  have h2 := dhi_le (wid L) 13
  exact field_loop (F := F) ((L 0).castLE hcore0) ((L 1).castLE hsub0) defs d (Memref.whole main_v14_scv : Memref sig .scVector .hbm S36x100000 .f32) (Memref.isWhole_whole _) s1 s2 s3 (k0_t79_loop L) hok init body
    (k0_off963 L) inbT (k0_off981 L) inbA (k0_off999 L) inbB la lb hbody idxA idxB fa fb (fun b => fx (ix2 ⟨13, by decide⟩ b)) hla hlb hidx
    O W0 q ft ft (src_read_14 (F := F) d ((L 0).castLE hcore0) ((L 1).castLE hsub0) ft) Tset lo hi hT G g0 468 (dlo (wid L) 13) (468 + dlo (wid L) 13)
    rfl (by decide) (by omega) hlo hhi (off963_eq L) (off981_eq L) (off999_eq L) hG kk Q

/-- Field 14's loop over its rows: the rows `[504 + dlo, 504 + dhi)` of the output array end at `G`. -/
theorem dloop_14 (L : grid0.Coords) (d : Dev nD) (defs : Defs nD τ sig (Elt F) Λ₀)
    (s1 s2 s3 : DmaSems sig S_) (hok : (k0_t85_loop L).OK) (init : BitVec 32)
    (body : Fin (k0_t85_loop L).trips → BitVec 32 → Prog (TpuEff nD τ sig (Elt F) Λ₀ (.scVector ((L 0).castLE hcore0) ((L 1).castLE hsub0))) (BitVec 32))
    (inbT : ∀ k a, k0_off1037 L k a + S1x100000.size a ≤ S36x100000.size a)
    (inbA : ∀ k a, k0_off1055 L k a + S1x8192.size a ≤ S936x16384.size a)
    (inbB : ∀ k a, k0_off1073 L k a + S1x8192.size a ≤ S936x16384.size a)
    (la lb : Fin (k0_t85_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v15_scv : Memref sig .scVector .hbm S36x100000 .f32) oV sRow (Memref.isWhole_whole _) sOch (Memref.isWhole_whole _) s1 s2 s3
        (k0_off1037 L k) (inbT k) (k0_off1055 L k) (inbA k) (k0_off1073 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t85_loop L).trips →
      (∀ y : S8192.Idx, idxA.view.read (Elt F) fa y = fx (ix2 ⟨14, by decide⟩ ⟨(y 0).val, Nat.lt_of_lt_of_le (y 0).isLt (by decide)⟩))
      ∧ (∀ y : S8192.Idx, idxB.view.read (Elt F) fb y = fx (ix2 ⟨14, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v15_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t85_loop L).trips → lo ≤ 504 + dlo (wid L) 14) (hhi : 0 < (k0_t85_loop L).trips → 504 + dlo (wid L) 14 + (k0_t85_loop L).trips ≤ hi)
    (G g0 : Buf (Elt F) (oV.view.loc (V d ((L 0).castLE hcore0) ((L 1).castLE hsub0))))
    (hG : ∀ x : S936x16384.Idx, 504 + dlo (wid L) 14 ≤ (x 0).val → (x 0).val < 504 + dlo (wid L) 14 + (k0_t85_loop L).trips →
      G x = ft (tIx (x 0).val (fx (ix2 ⟨14, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v15_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (504 + dlo (wid L) 14) 0 init
        ∗ (∀ acc, rowsInv (F := F) ((L 0).castLE hcore0) ((L 1).castLE hsub0) d (Memref.whole main_v15_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (504 + dlo (wid L) 14) (k0_t85_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t85_loop L) hok init body >>= kk) Q := by
  have htr := t85_trips L
  have h1 := dlo_le_dhi (wid L) 14
  have h2 := dhi_le (wid L) 14
  exact field_loop (F := F) ((L 0).castLE hcore0) ((L 1).castLE hsub0) defs d (Memref.whole main_v15_scv : Memref sig .scVector .hbm S36x100000 .f32) (Memref.isWhole_whole _) s1 s2 s3 (k0_t85_loop L) hok init body
    (k0_off1037 L) inbT (k0_off1055 L) inbA (k0_off1073 L) inbB la lb hbody idxA idxB fa fb (fun b => fx (ix2 ⟨14, by decide⟩ b)) hla hlb hidx
    O W0 q ft ft (src_read_15 (F := F) d ((L 0).castLE hcore0) ((L 1).castLE hsub0) ft) Tset lo hi hT G g0 504 (dlo (wid L) 14) (504 + dlo (wid L) 14)
    rfl (by decide) (by omega) hlo hhi (off1037_eq L) (off1055_eq L) (off1073_eq L) hG kk Q

/-- Field 15's loop over its rows: the rows `[540 + dlo, 540 + dhi)` of the output array end at `G`. -/
theorem dloop_15 (L : grid0.Coords) (d : Dev nD) (defs : Defs nD τ sig (Elt F) Λ₀)
    (s1 s2 s3 : DmaSems sig S_) (hok : (k0_t91_loop L).OK) (init : BitVec 32)
    (body : Fin (k0_t91_loop L).trips → BitVec 32 → Prog (TpuEff nD τ sig (Elt F) Λ₀ (.scVector ((L 0).castLE hcore0) ((L 1).castLE hsub0))) (BitVec 32))
    (inbT : ∀ k a, k0_off1111 L k a + S1x100000.size a ≤ S36x100000.size a)
    (inbA : ∀ k a, k0_off1129 L k a + S1x8192.size a ≤ S936x16384.size a)
    (inbB : ∀ k a, k0_off1147 L k a + S1x8192.size a ≤ S936x16384.size a)
    (la lb : Fin (k0_t91_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v16_scv : Memref sig .scVector .hbm S36x100000 .f32) oV sRow (Memref.isWhole_whole _) sOch (Memref.isWhole_whole _) s1 s2 s3
        (k0_off1111 L k) (inbT k) (k0_off1129 L k) (inbA k) (k0_off1147 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t91_loop L).trips →
      (∀ y : S8192.Idx, idxA.view.read (Elt F) fa y = fx (ix2 ⟨15, by decide⟩ ⟨(y 0).val, Nat.lt_of_lt_of_le (y 0).isLt (by decide)⟩))
      ∧ (∀ y : S8192.Idx, idxB.view.read (Elt F) fb y = fx (ix2 ⟨15, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v16_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t91_loop L).trips → lo ≤ 540 + dlo (wid L) 15) (hhi : 0 < (k0_t91_loop L).trips → 540 + dlo (wid L) 15 + (k0_t91_loop L).trips ≤ hi)
    (G g0 : Buf (Elt F) (oV.view.loc (V d ((L 0).castLE hcore0) ((L 1).castLE hsub0))))
    (hG : ∀ x : S936x16384.Idx, 540 + dlo (wid L) 15 ≤ (x 0).val → (x 0).val < 540 + dlo (wid L) 15 + (k0_t91_loop L).trips →
      G x = ft (tIx (x 0).val (fx (ix2 ⟨15, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v16_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (540 + dlo (wid L) 15) 0 init
        ∗ (∀ acc, rowsInv (F := F) ((L 0).castLE hcore0) ((L 1).castLE hsub0) d (Memref.whole main_v16_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (540 + dlo (wid L) 15) (k0_t91_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t91_loop L) hok init body >>= kk) Q := by
  have htr := t91_trips L
  have h1 := dlo_le_dhi (wid L) 15
  have h2 := dhi_le (wid L) 15
  exact field_loop (F := F) ((L 0).castLE hcore0) ((L 1).castLE hsub0) defs d (Memref.whole main_v16_scv : Memref sig .scVector .hbm S36x100000 .f32) (Memref.isWhole_whole _) s1 s2 s3 (k0_t91_loop L) hok init body
    (k0_off1111 L) inbT (k0_off1129 L) inbA (k0_off1147 L) inbB la lb hbody idxA idxB fa fb (fun b => fx (ix2 ⟨15, by decide⟩ b)) hla hlb hidx
    O W0 q ft ft (src_read_16 (F := F) d ((L 0).castLE hcore0) ((L 1).castLE hsub0) ft) Tset lo hi hT G g0 540 (dlo (wid L) 15) (540 + dlo (wid L) 15)
    rfl (by decide) (by omega) hlo hhi (off1111_eq L) (off1129_eq L) (off1147_eq L) hG kk Q

/-- Field 16's loop over its rows: the rows `[576 + dlo, 576 + dhi)` of the output array end at `G`. -/
theorem dloop_16 (L : grid0.Coords) (d : Dev nD) (defs : Defs nD τ sig (Elt F) Λ₀)
    (s1 s2 s3 : DmaSems sig S_) (hok : (k0_t97_loop L).OK) (init : BitVec 32)
    (body : Fin (k0_t97_loop L).trips → BitVec 32 → Prog (TpuEff nD τ sig (Elt F) Λ₀ (.scVector ((L 0).castLE hcore0) ((L 1).castLE hsub0))) (BitVec 32))
    (inbT : ∀ k a, k0_off1185 L k a + S1x100000.size a ≤ S36x100000.size a)
    (inbA : ∀ k a, k0_off1203 L k a + S1x8192.size a ≤ S936x16384.size a)
    (inbB : ∀ k a, k0_off1221 L k a + S1x8192.size a ≤ S936x16384.size a)
    (la lb : Fin (k0_t97_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v17_scv : Memref sig .scVector .hbm S36x100000 .f32) oV sRow (Memref.isWhole_whole _) sOch (Memref.isWhole_whole _) s1 s2 s3
        (k0_off1185 L k) (inbT k) (k0_off1203 L k) (inbA k) (k0_off1221 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t97_loop L).trips →
      (∀ y : S8192.Idx, idxA.view.read (Elt F) fa y = fx (ix2 ⟨16, by decide⟩ ⟨(y 0).val, Nat.lt_of_lt_of_le (y 0).isLt (by decide)⟩))
      ∧ (∀ y : S8192.Idx, idxB.view.read (Elt F) fb y = fx (ix2 ⟨16, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v17_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t97_loop L).trips → lo ≤ 576 + dlo (wid L) 16) (hhi : 0 < (k0_t97_loop L).trips → 576 + dlo (wid L) 16 + (k0_t97_loop L).trips ≤ hi)
    (G g0 : Buf (Elt F) (oV.view.loc (V d ((L 0).castLE hcore0) ((L 1).castLE hsub0))))
    (hG : ∀ x : S936x16384.Idx, 576 + dlo (wid L) 16 ≤ (x 0).val → (x 0).val < 576 + dlo (wid L) 16 + (k0_t97_loop L).trips →
      G x = ft (tIx (x 0).val (fx (ix2 ⟨16, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v17_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (576 + dlo (wid L) 16) 0 init
        ∗ (∀ acc, rowsInv (F := F) ((L 0).castLE hcore0) ((L 1).castLE hsub0) d (Memref.whole main_v17_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (576 + dlo (wid L) 16) (k0_t97_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t97_loop L) hok init body >>= kk) Q := by
  have htr := t97_trips L
  have h1 := dlo_le_dhi (wid L) 16
  have h2 := dhi_le (wid L) 16
  exact field_loop (F := F) ((L 0).castLE hcore0) ((L 1).castLE hsub0) defs d (Memref.whole main_v17_scv : Memref sig .scVector .hbm S36x100000 .f32) (Memref.isWhole_whole _) s1 s2 s3 (k0_t97_loop L) hok init body
    (k0_off1185 L) inbT (k0_off1203 L) inbA (k0_off1221 L) inbB la lb hbody idxA idxB fa fb (fun b => fx (ix2 ⟨16, by decide⟩ b)) hla hlb hidx
    O W0 q ft ft (src_read_17 (F := F) d ((L 0).castLE hcore0) ((L 1).castLE hsub0) ft) Tset lo hi hT G g0 576 (dlo (wid L) 16) (576 + dlo (wid L) 16)
    rfl (by decide) (by omega) hlo hhi (off1185_eq L) (off1203_eq L) (off1221_eq L) hG kk Q

/-- Field 17's loop over its rows: the rows `[612 + dlo, 612 + dhi)` of the output array end at `G`. -/
theorem dloop_17 (L : grid0.Coords) (d : Dev nD) (defs : Defs nD τ sig (Elt F) Λ₀)
    (s1 s2 s3 : DmaSems sig S_) (hok : (k0_t103_loop L).OK) (init : BitVec 32)
    (body : Fin (k0_t103_loop L).trips → BitVec 32 → Prog (TpuEff nD τ sig (Elt F) Λ₀ (.scVector ((L 0).castLE hcore0) ((L 1).castLE hsub0))) (BitVec 32))
    (inbT : ∀ k a, k0_off1259 L k a + S1x100000.size a ≤ S36x100000.size a)
    (inbA : ∀ k a, k0_off1277 L k a + S1x8192.size a ≤ S936x16384.size a)
    (inbB : ∀ k a, k0_off1295 L k a + S1x8192.size a ≤ S936x16384.size a)
    (la lb : Fin (k0_t103_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v18_scv : Memref sig .scVector .hbm S36x100000 .f32) oV sRow (Memref.isWhole_whole _) sOch (Memref.isWhole_whole _) s1 s2 s3
        (k0_off1259 L k) (inbT k) (k0_off1277 L k) (inbA k) (k0_off1295 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t103_loop L).trips →
      (∀ y : S8192.Idx, idxA.view.read (Elt F) fa y = fx (ix2 ⟨17, by decide⟩ ⟨(y 0).val, Nat.lt_of_lt_of_le (y 0).isLt (by decide)⟩))
      ∧ (∀ y : S8192.Idx, idxB.view.read (Elt F) fb y = fx (ix2 ⟨17, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v18_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t103_loop L).trips → lo ≤ 612 + dlo (wid L) 17) (hhi : 0 < (k0_t103_loop L).trips → 612 + dlo (wid L) 17 + (k0_t103_loop L).trips ≤ hi)
    (G g0 : Buf (Elt F) (oV.view.loc (V d ((L 0).castLE hcore0) ((L 1).castLE hsub0))))
    (hG : ∀ x : S936x16384.Idx, 612 + dlo (wid L) 17 ≤ (x 0).val → (x 0).val < 612 + dlo (wid L) 17 + (k0_t103_loop L).trips →
      G x = ft (tIx (x 0).val (fx (ix2 ⟨17, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v18_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (612 + dlo (wid L) 17) 0 init
        ∗ (∀ acc, rowsInv (F := F) ((L 0).castLE hcore0) ((L 1).castLE hsub0) d (Memref.whole main_v18_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (612 + dlo (wid L) 17) (k0_t103_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t103_loop L) hok init body >>= kk) Q := by
  have htr := t103_trips L
  have h1 := dlo_le_dhi (wid L) 17
  have h2 := dhi_le (wid L) 17
  exact field_loop (F := F) ((L 0).castLE hcore0) ((L 1).castLE hsub0) defs d (Memref.whole main_v18_scv : Memref sig .scVector .hbm S36x100000 .f32) (Memref.isWhole_whole _) s1 s2 s3 (k0_t103_loop L) hok init body
    (k0_off1259 L) inbT (k0_off1277 L) inbA (k0_off1295 L) inbB la lb hbody idxA idxB fa fb (fun b => fx (ix2 ⟨17, by decide⟩ b)) hla hlb hidx
    O W0 q ft ft (src_read_18 (F := F) d ((L 0).castLE hcore0) ((L 1).castLE hsub0) ft) Tset lo hi hT G g0 612 (dlo (wid L) 17) (612 + dlo (wid L) 17)
    rfl (by decide) (by omega) hlo hhi (off1259_eq L) (off1277_eq L) (off1295_eq L) hG kk Q

/-- Field 18's loop over its rows: the rows `[648 + dlo, 648 + dhi)` of the output array end at `G`. -/
theorem dloop_18 (L : grid0.Coords) (d : Dev nD) (defs : Defs nD τ sig (Elt F) Λ₀)
    (s1 s2 s3 : DmaSems sig S_) (hok : (k0_t109_loop L).OK) (init : BitVec 32)
    (body : Fin (k0_t109_loop L).trips → BitVec 32 → Prog (TpuEff nD τ sig (Elt F) Λ₀ (.scVector ((L 0).castLE hcore0) ((L 1).castLE hsub0))) (BitVec 32))
    (inbT : ∀ k a, k0_off1333 L k a + S1x100000.size a ≤ S36x100000.size a)
    (inbA : ∀ k a, k0_off1351 L k a + S1x8192.size a ≤ S936x16384.size a)
    (inbB : ∀ k a, k0_off1369 L k a + S1x8192.size a ≤ S936x16384.size a)
    (la lb : Fin (k0_t109_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v19_scv : Memref sig .scVector .hbm S36x100000 .f32) oV sRow (Memref.isWhole_whole _) sOch (Memref.isWhole_whole _) s1 s2 s3
        (k0_off1333 L k) (inbT k) (k0_off1351 L k) (inbA k) (k0_off1369 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t109_loop L).trips →
      (∀ y : S8192.Idx, idxA.view.read (Elt F) fa y = fx (ix2 ⟨18, by decide⟩ ⟨(y 0).val, Nat.lt_of_lt_of_le (y 0).isLt (by decide)⟩))
      ∧ (∀ y : S8192.Idx, idxB.view.read (Elt F) fb y = fx (ix2 ⟨18, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v19_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t109_loop L).trips → lo ≤ 648 + dlo (wid L) 18) (hhi : 0 < (k0_t109_loop L).trips → 648 + dlo (wid L) 18 + (k0_t109_loop L).trips ≤ hi)
    (G g0 : Buf (Elt F) (oV.view.loc (V d ((L 0).castLE hcore0) ((L 1).castLE hsub0))))
    (hG : ∀ x : S936x16384.Idx, 648 + dlo (wid L) 18 ≤ (x 0).val → (x 0).val < 648 + dlo (wid L) 18 + (k0_t109_loop L).trips →
      G x = ft (tIx (x 0).val (fx (ix2 ⟨18, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v19_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (648 + dlo (wid L) 18) 0 init
        ∗ (∀ acc, rowsInv (F := F) ((L 0).castLE hcore0) ((L 1).castLE hsub0) d (Memref.whole main_v19_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (648 + dlo (wid L) 18) (k0_t109_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t109_loop L) hok init body >>= kk) Q := by
  have htr := t109_trips L
  have h1 := dlo_le_dhi (wid L) 18
  have h2 := dhi_le (wid L) 18
  exact field_loop (F := F) ((L 0).castLE hcore0) ((L 1).castLE hsub0) defs d (Memref.whole main_v19_scv : Memref sig .scVector .hbm S36x100000 .f32) (Memref.isWhole_whole _) s1 s2 s3 (k0_t109_loop L) hok init body
    (k0_off1333 L) inbT (k0_off1351 L) inbA (k0_off1369 L) inbB la lb hbody idxA idxB fa fb (fun b => fx (ix2 ⟨18, by decide⟩ b)) hla hlb hidx
    O W0 q ft ft (src_read_19 (F := F) d ((L 0).castLE hcore0) ((L 1).castLE hsub0) ft) Tset lo hi hT G g0 648 (dlo (wid L) 18) (648 + dlo (wid L) 18)
    rfl (by decide) (by omega) hlo hhi (off1333_eq L) (off1351_eq L) (off1369_eq L) hG kk Q

/-- Field 19's loop over its rows: the rows `[684 + dlo, 684 + dhi)` of the output array end at `G`. -/
theorem dloop_19 (L : grid0.Coords) (d : Dev nD) (defs : Defs nD τ sig (Elt F) Λ₀)
    (s1 s2 s3 : DmaSems sig S_) (hok : (k0_t115_loop L).OK) (init : BitVec 32)
    (body : Fin (k0_t115_loop L).trips → BitVec 32 → Prog (TpuEff nD τ sig (Elt F) Λ₀ (.scVector ((L 0).castLE hcore0) ((L 1).castLE hsub0))) (BitVec 32))
    (inbT : ∀ k a, k0_off1407 L k a + S1x100000.size a ≤ S36x100000.size a)
    (inbA : ∀ k a, k0_off1425 L k a + S1x8192.size a ≤ S936x16384.size a)
    (inbB : ∀ k a, k0_off1443 L k a + S1x8192.size a ≤ S936x16384.size a)
    (la lb : Fin (k0_t115_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v20_scv : Memref sig .scVector .hbm S36x100000 .f32) oV sRow (Memref.isWhole_whole _) sOch (Memref.isWhole_whole _) s1 s2 s3
        (k0_off1407 L k) (inbT k) (k0_off1425 L k) (inbA k) (k0_off1443 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t115_loop L).trips →
      (∀ y : S8192.Idx, idxA.view.read (Elt F) fa y = fx (ix2 ⟨19, by decide⟩ ⟨(y 0).val, Nat.lt_of_lt_of_le (y 0).isLt (by decide)⟩))
      ∧ (∀ y : S8192.Idx, idxB.view.read (Elt F) fb y = fx (ix2 ⟨19, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v20_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t115_loop L).trips → lo ≤ 684 + dlo (wid L) 19) (hhi : 0 < (k0_t115_loop L).trips → 684 + dlo (wid L) 19 + (k0_t115_loop L).trips ≤ hi)
    (G g0 : Buf (Elt F) (oV.view.loc (V d ((L 0).castLE hcore0) ((L 1).castLE hsub0))))
    (hG : ∀ x : S936x16384.Idx, 684 + dlo (wid L) 19 ≤ (x 0).val → (x 0).val < 684 + dlo (wid L) 19 + (k0_t115_loop L).trips →
      G x = ft (tIx (x 0).val (fx (ix2 ⟨19, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v20_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (684 + dlo (wid L) 19) 0 init
        ∗ (∀ acc, rowsInv (F := F) ((L 0).castLE hcore0) ((L 1).castLE hsub0) d (Memref.whole main_v20_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (684 + dlo (wid L) 19) (k0_t115_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t115_loop L) hok init body >>= kk) Q := by
  have htr := t115_trips L
  have h1 := dlo_le_dhi (wid L) 19
  have h2 := dhi_le (wid L) 19
  exact field_loop (F := F) ((L 0).castLE hcore0) ((L 1).castLE hsub0) defs d (Memref.whole main_v20_scv : Memref sig .scVector .hbm S36x100000 .f32) (Memref.isWhole_whole _) s1 s2 s3 (k0_t115_loop L) hok init body
    (k0_off1407 L) inbT (k0_off1425 L) inbA (k0_off1443 L) inbB la lb hbody idxA idxB fa fb (fun b => fx (ix2 ⟨19, by decide⟩ b)) hla hlb hidx
    O W0 q ft ft (src_read_20 (F := F) d ((L 0).castLE hcore0) ((L 1).castLE hsub0) ft) Tset lo hi hT G g0 684 (dlo (wid L) 19) (684 + dlo (wid L) 19)
    rfl (by decide) (by omega) hlo hhi (off1407_eq L) (off1425_eq L) (off1443_eq L) hG kk Q

/-- Field 20's loop over its rows: the rows `[720 + dlo, 720 + dhi)` of the output array end at `G`. -/
theorem dloop_20 (L : grid0.Coords) (d : Dev nD) (defs : Defs nD τ sig (Elt F) Λ₀)
    (s1 s2 s3 : DmaSems sig S_) (hok : (k0_t121_loop L).OK) (init : BitVec 32)
    (body : Fin (k0_t121_loop L).trips → BitVec 32 → Prog (TpuEff nD τ sig (Elt F) Λ₀ (.scVector ((L 0).castLE hcore0) ((L 1).castLE hsub0))) (BitVec 32))
    (inbT : ∀ k a, k0_off1481 L k a + S1x100000.size a ≤ S36x100000.size a)
    (inbA : ∀ k a, k0_off1499 L k a + S1x8192.size a ≤ S936x16384.size a)
    (inbB : ∀ k a, k0_off1517 L k a + S1x8192.size a ≤ S936x16384.size a)
    (la lb : Fin (k0_t121_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v21_scv : Memref sig .scVector .hbm S36x100000 .f32) oV sRow (Memref.isWhole_whole _) sOch (Memref.isWhole_whole _) s1 s2 s3
        (k0_off1481 L k) (inbT k) (k0_off1499 L k) (inbA k) (k0_off1517 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t121_loop L).trips →
      (∀ y : S8192.Idx, idxA.view.read (Elt F) fa y = fx (ix2 ⟨20, by decide⟩ ⟨(y 0).val, Nat.lt_of_lt_of_le (y 0).isLt (by decide)⟩))
      ∧ (∀ y : S8192.Idx, idxB.view.read (Elt F) fb y = fx (ix2 ⟨20, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v21_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t121_loop L).trips → lo ≤ 720 + dlo (wid L) 20) (hhi : 0 < (k0_t121_loop L).trips → 720 + dlo (wid L) 20 + (k0_t121_loop L).trips ≤ hi)
    (G g0 : Buf (Elt F) (oV.view.loc (V d ((L 0).castLE hcore0) ((L 1).castLE hsub0))))
    (hG : ∀ x : S936x16384.Idx, 720 + dlo (wid L) 20 ≤ (x 0).val → (x 0).val < 720 + dlo (wid L) 20 + (k0_t121_loop L).trips →
      G x = ft (tIx (x 0).val (fx (ix2 ⟨20, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v21_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (720 + dlo (wid L) 20) 0 init
        ∗ (∀ acc, rowsInv (F := F) ((L 0).castLE hcore0) ((L 1).castLE hsub0) d (Memref.whole main_v21_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (720 + dlo (wid L) 20) (k0_t121_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t121_loop L) hok init body >>= kk) Q := by
  have htr := t121_trips L
  have h1 := dlo_le_dhi (wid L) 20
  have h2 := dhi_le (wid L) 20
  exact field_loop (F := F) ((L 0).castLE hcore0) ((L 1).castLE hsub0) defs d (Memref.whole main_v21_scv : Memref sig .scVector .hbm S36x100000 .f32) (Memref.isWhole_whole _) s1 s2 s3 (k0_t121_loop L) hok init body
    (k0_off1481 L) inbT (k0_off1499 L) inbA (k0_off1517 L) inbB la lb hbody idxA idxB fa fb (fun b => fx (ix2 ⟨20, by decide⟩ b)) hla hlb hidx
    O W0 q ft ft (src_read_21 (F := F) d ((L 0).castLE hcore0) ((L 1).castLE hsub0) ft) Tset lo hi hT G g0 720 (dlo (wid L) 20) (720 + dlo (wid L) 20)
    rfl (by decide) (by omega) hlo hhi (off1481_eq L) (off1499_eq L) (off1517_eq L) hG kk Q

/-- Field 21's loop over its rows: the rows `[756 + dlo, 756 + dhi)` of the output array end at `G`. -/
theorem dloop_21 (L : grid0.Coords) (d : Dev nD) (defs : Defs nD τ sig (Elt F) Λ₀)
    (s1 s2 s3 : DmaSems sig S_) (hok : (k0_t127_loop L).OK) (init : BitVec 32)
    (body : Fin (k0_t127_loop L).trips → BitVec 32 → Prog (TpuEff nD τ sig (Elt F) Λ₀ (.scVector ((L 0).castLE hcore0) ((L 1).castLE hsub0))) (BitVec 32))
    (inbT : ∀ k a, k0_off1555 L k a + S1x100000.size a ≤ S36x100000.size a)
    (inbA : ∀ k a, k0_off1573 L k a + S1x8192.size a ≤ S936x16384.size a)
    (inbB : ∀ k a, k0_off1591 L k a + S1x8192.size a ≤ S936x16384.size a)
    (la lb : Fin (k0_t127_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v22_scv : Memref sig .scVector .hbm S36x100000 .f32) oV sRow (Memref.isWhole_whole _) sOch (Memref.isWhole_whole _) s1 s2 s3
        (k0_off1555 L k) (inbT k) (k0_off1573 L k) (inbA k) (k0_off1591 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t127_loop L).trips →
      (∀ y : S8192.Idx, idxA.view.read (Elt F) fa y = fx (ix2 ⟨21, by decide⟩ ⟨(y 0).val, Nat.lt_of_lt_of_le (y 0).isLt (by decide)⟩))
      ∧ (∀ y : S8192.Idx, idxB.view.read (Elt F) fb y = fx (ix2 ⟨21, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v22_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t127_loop L).trips → lo ≤ 756 + dlo (wid L) 21) (hhi : 0 < (k0_t127_loop L).trips → 756 + dlo (wid L) 21 + (k0_t127_loop L).trips ≤ hi)
    (G g0 : Buf (Elt F) (oV.view.loc (V d ((L 0).castLE hcore0) ((L 1).castLE hsub0))))
    (hG : ∀ x : S936x16384.Idx, 756 + dlo (wid L) 21 ≤ (x 0).val → (x 0).val < 756 + dlo (wid L) 21 + (k0_t127_loop L).trips →
      G x = ft (tIx (x 0).val (fx (ix2 ⟨21, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v22_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (756 + dlo (wid L) 21) 0 init
        ∗ (∀ acc, rowsInv (F := F) ((L 0).castLE hcore0) ((L 1).castLE hsub0) d (Memref.whole main_v22_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (756 + dlo (wid L) 21) (k0_t127_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t127_loop L) hok init body >>= kk) Q := by
  have htr := t127_trips L
  have h1 := dlo_le_dhi (wid L) 21
  have h2 := dhi_le (wid L) 21
  exact field_loop (F := F) ((L 0).castLE hcore0) ((L 1).castLE hsub0) defs d (Memref.whole main_v22_scv : Memref sig .scVector .hbm S36x100000 .f32) (Memref.isWhole_whole _) s1 s2 s3 (k0_t127_loop L) hok init body
    (k0_off1555 L) inbT (k0_off1573 L) inbA (k0_off1591 L) inbB la lb hbody idxA idxB fa fb (fun b => fx (ix2 ⟨21, by decide⟩ b)) hla hlb hidx
    O W0 q ft ft (src_read_22 (F := F) d ((L 0).castLE hcore0) ((L 1).castLE hsub0) ft) Tset lo hi hT G g0 756 (dlo (wid L) 21) (756 + dlo (wid L) 21)
    rfl (by decide) (by omega) hlo hhi (off1555_eq L) (off1573_eq L) (off1591_eq L) hG kk Q

/-- Field 22's loop over its rows: the rows `[792 + dlo, 792 + dhi)` of the output array end at `G`. -/
theorem dloop_22 (L : grid0.Coords) (d : Dev nD) (defs : Defs nD τ sig (Elt F) Λ₀)
    (s1 s2 s3 : DmaSems sig S_) (hok : (k0_t133_loop L).OK) (init : BitVec 32)
    (body : Fin (k0_t133_loop L).trips → BitVec 32 → Prog (TpuEff nD τ sig (Elt F) Λ₀ (.scVector ((L 0).castLE hcore0) ((L 1).castLE hsub0))) (BitVec 32))
    (inbT : ∀ k a, k0_off1629 L k a + S1x100000.size a ≤ S36x100000.size a)
    (inbA : ∀ k a, k0_off1647 L k a + S1x8192.size a ≤ S936x16384.size a)
    (inbB : ∀ k a, k0_off1665 L k a + S1x8192.size a ≤ S936x16384.size a)
    (la lb : Fin (k0_t133_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v23_scv : Memref sig .scVector .hbm S36x100000 .f32) oV sRow (Memref.isWhole_whole _) sOch (Memref.isWhole_whole _) s1 s2 s3
        (k0_off1629 L k) (inbT k) (k0_off1647 L k) (inbA k) (k0_off1665 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t133_loop L).trips →
      (∀ y : S8192.Idx, idxA.view.read (Elt F) fa y = fx (ix2 ⟨22, by decide⟩ ⟨(y 0).val, Nat.lt_of_lt_of_le (y 0).isLt (by decide)⟩))
      ∧ (∀ y : S8192.Idx, idxB.view.read (Elt F) fb y = fx (ix2 ⟨22, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v23_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t133_loop L).trips → lo ≤ 792 + dlo (wid L) 22) (hhi : 0 < (k0_t133_loop L).trips → 792 + dlo (wid L) 22 + (k0_t133_loop L).trips ≤ hi)
    (G g0 : Buf (Elt F) (oV.view.loc (V d ((L 0).castLE hcore0) ((L 1).castLE hsub0))))
    (hG : ∀ x : S936x16384.Idx, 792 + dlo (wid L) 22 ≤ (x 0).val → (x 0).val < 792 + dlo (wid L) 22 + (k0_t133_loop L).trips →
      G x = ft (tIx (x 0).val (fx (ix2 ⟨22, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v23_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (792 + dlo (wid L) 22) 0 init
        ∗ (∀ acc, rowsInv (F := F) ((L 0).castLE hcore0) ((L 1).castLE hsub0) d (Memref.whole main_v23_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (792 + dlo (wid L) 22) (k0_t133_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t133_loop L) hok init body >>= kk) Q := by
  have htr := t133_trips L
  have h1 := dlo_le_dhi (wid L) 22
  have h2 := dhi_le (wid L) 22
  exact field_loop (F := F) ((L 0).castLE hcore0) ((L 1).castLE hsub0) defs d (Memref.whole main_v23_scv : Memref sig .scVector .hbm S36x100000 .f32) (Memref.isWhole_whole _) s1 s2 s3 (k0_t133_loop L) hok init body
    (k0_off1629 L) inbT (k0_off1647 L) inbA (k0_off1665 L) inbB la lb hbody idxA idxB fa fb (fun b => fx (ix2 ⟨22, by decide⟩ b)) hla hlb hidx
    O W0 q ft ft (src_read_23 (F := F) d ((L 0).castLE hcore0) ((L 1).castLE hsub0) ft) Tset lo hi hT G g0 792 (dlo (wid L) 22) (792 + dlo (wid L) 22)
    rfl (by decide) (by omega) hlo hhi (off1629_eq L) (off1647_eq L) (off1665_eq L) hG kk Q

/-- Field 23's loop over its rows: the rows `[828 + dlo, 828 + dhi)` of the output array end at `G`. -/
theorem dloop_23 (L : grid0.Coords) (d : Dev nD) (defs : Defs nD τ sig (Elt F) Λ₀)
    (s1 s2 s3 : DmaSems sig S_) (hok : (k0_t139_loop L).OK) (init : BitVec 32)
    (body : Fin (k0_t139_loop L).trips → BitVec 32 → Prog (TpuEff nD τ sig (Elt F) Λ₀ (.scVector ((L 0).castLE hcore0) ((L 1).castLE hsub0))) (BitVec 32))
    (inbT : ∀ k a, k0_off1703 L k a + S1x100000.size a ≤ S36x100000.size a)
    (inbA : ∀ k a, k0_off1721 L k a + S1x8192.size a ≤ S936x16384.size a)
    (inbB : ∀ k a, k0_off1739 L k a + S1x8192.size a ≤ S936x16384.size a)
    (la lb : Fin (k0_t139_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v24_scv : Memref sig .scVector .hbm S36x100000 .f32) oV sRow (Memref.isWhole_whole _) sOch (Memref.isWhole_whole _) s1 s2 s3
        (k0_off1703 L k) (inbT k) (k0_off1721 L k) (inbA k) (k0_off1739 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t139_loop L).trips →
      (∀ y : S8192.Idx, idxA.view.read (Elt F) fa y = fx (ix2 ⟨23, by decide⟩ ⟨(y 0).val, Nat.lt_of_lt_of_le (y 0).isLt (by decide)⟩))
      ∧ (∀ y : S8192.Idx, idxB.view.read (Elt F) fb y = fx (ix2 ⟨23, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v24_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t139_loop L).trips → lo ≤ 828 + dlo (wid L) 23) (hhi : 0 < (k0_t139_loop L).trips → 828 + dlo (wid L) 23 + (k0_t139_loop L).trips ≤ hi)
    (G g0 : Buf (Elt F) (oV.view.loc (V d ((L 0).castLE hcore0) ((L 1).castLE hsub0))))
    (hG : ∀ x : S936x16384.Idx, 828 + dlo (wid L) 23 ≤ (x 0).val → (x 0).val < 828 + dlo (wid L) 23 + (k0_t139_loop L).trips →
      G x = ft (tIx (x 0).val (fx (ix2 ⟨23, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v24_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (828 + dlo (wid L) 23) 0 init
        ∗ (∀ acc, rowsInv (F := F) ((L 0).castLE hcore0) ((L 1).castLE hsub0) d (Memref.whole main_v24_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (828 + dlo (wid L) 23) (k0_t139_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t139_loop L) hok init body >>= kk) Q := by
  have htr := t139_trips L
  have h1 := dlo_le_dhi (wid L) 23
  have h2 := dhi_le (wid L) 23
  exact field_loop (F := F) ((L 0).castLE hcore0) ((L 1).castLE hsub0) defs d (Memref.whole main_v24_scv : Memref sig .scVector .hbm S36x100000 .f32) (Memref.isWhole_whole _) s1 s2 s3 (k0_t139_loop L) hok init body
    (k0_off1703 L) inbT (k0_off1721 L) inbA (k0_off1739 L) inbB la lb hbody idxA idxB fa fb (fun b => fx (ix2 ⟨23, by decide⟩ b)) hla hlb hidx
    O W0 q ft ft (src_read_24 (F := F) d ((L 0).castLE hcore0) ((L 1).castLE hsub0) ft) Tset lo hi hT G g0 828 (dlo (wid L) 23) (828 + dlo (wid L) 23)
    rfl (by decide) (by omega) hlo hhi (off1703_eq L) (off1721_eq L) (off1739_eq L) hG kk Q

/-- Field 24's loop over its rows: the rows `[864 + dlo, 864 + dhi)` of the output array end at `G`. -/
theorem dloop_24 (L : grid0.Coords) (d : Dev nD) (defs : Defs nD τ sig (Elt F) Λ₀)
    (s1 s2 s3 : DmaSems sig S_) (hok : (k0_t145_loop L).OK) (init : BitVec 32)
    (body : Fin (k0_t145_loop L).trips → BitVec 32 → Prog (TpuEff nD τ sig (Elt F) Λ₀ (.scVector ((L 0).castLE hcore0) ((L 1).castLE hsub0))) (BitVec 32))
    (inbT : ∀ k a, k0_off1777 L k a + S1x100000.size a ≤ S36x100000.size a)
    (inbA : ∀ k a, k0_off1795 L k a + S1x8192.size a ≤ S936x16384.size a)
    (inbB : ∀ k a, k0_off1813 L k a + S1x8192.size a ≤ S936x16384.size a)
    (la lb : Fin (k0_t145_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v25_scv : Memref sig .scVector .hbm S36x100000 .f32) oV sRow (Memref.isWhole_whole _) sOch (Memref.isWhole_whole _) s1 s2 s3
        (k0_off1777 L k) (inbT k) (k0_off1795 L k) (inbA k) (k0_off1813 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t145_loop L).trips →
      (∀ y : S8192.Idx, idxA.view.read (Elt F) fa y = fx (ix2 ⟨24, by decide⟩ ⟨(y 0).val, Nat.lt_of_lt_of_le (y 0).isLt (by decide)⟩))
      ∧ (∀ y : S8192.Idx, idxB.view.read (Elt F) fb y = fx (ix2 ⟨24, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v25_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t145_loop L).trips → lo ≤ 864 + dlo (wid L) 24) (hhi : 0 < (k0_t145_loop L).trips → 864 + dlo (wid L) 24 + (k0_t145_loop L).trips ≤ hi)
    (G g0 : Buf (Elt F) (oV.view.loc (V d ((L 0).castLE hcore0) ((L 1).castLE hsub0))))
    (hG : ∀ x : S936x16384.Idx, 864 + dlo (wid L) 24 ≤ (x 0).val → (x 0).val < 864 + dlo (wid L) 24 + (k0_t145_loop L).trips →
      G x = ft (tIx (x 0).val (fx (ix2 ⟨24, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v25_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (864 + dlo (wid L) 24) 0 init
        ∗ (∀ acc, rowsInv (F := F) ((L 0).castLE hcore0) ((L 1).castLE hsub0) d (Memref.whole main_v25_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (864 + dlo (wid L) 24) (k0_t145_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t145_loop L) hok init body >>= kk) Q := by
  have htr := t145_trips L
  have h1 := dlo_le_dhi (wid L) 24
  have h2 := dhi_le (wid L) 24
  exact field_loop (F := F) ((L 0).castLE hcore0) ((L 1).castLE hsub0) defs d (Memref.whole main_v25_scv : Memref sig .scVector .hbm S36x100000 .f32) (Memref.isWhole_whole _) s1 s2 s3 (k0_t145_loop L) hok init body
    (k0_off1777 L) inbT (k0_off1795 L) inbA (k0_off1813 L) inbB la lb hbody idxA idxB fa fb (fun b => fx (ix2 ⟨24, by decide⟩ b)) hla hlb hidx
    O W0 q ft ft (src_read_25 (F := F) d ((L 0).castLE hcore0) ((L 1).castLE hsub0) ft) Tset lo hi hT G g0 864 (dlo (wid L) 24) (864 + dlo (wid L) 24)
    rfl (by decide) (by omega) hlo hhi (off1777_eq L) (off1795_eq L) (off1813_eq L) hG kk Q

/-- Field 25's loop over its rows: the rows `[900 + dlo, 900 + dhi)` of the output array end at `G`. -/
theorem dloop_25 (L : grid0.Coords) (d : Dev nD) (defs : Defs nD τ sig (Elt F) Λ₀)
    (s1 s2 s3 : DmaSems sig S_) (hok : (k0_t151_loop L).OK) (init : BitVec 32)
    (body : Fin (k0_t151_loop L).trips → BitVec 32 → Prog (TpuEff nD τ sig (Elt F) Λ₀ (.scVector ((L 0).castLE hcore0) ((L 1).castLE hsub0))) (BitVec 32))
    (inbT : ∀ k a, k0_off1851 L k a + S1x100000.size a ≤ S36x100000.size a)
    (inbA : ∀ k a, k0_off1869 L k a + S1x8192.size a ≤ S936x16384.size a)
    (inbB : ∀ k a, k0_off1887 L k a + S1x8192.size a ≤ S936x16384.size a)
    (la lb : Fin (k0_t151_loop L).trips → Prog (TpuEff nD τ sig (Elt F) Λ₀ (.scVector ((L 0).castLE hcore0) ((L 1).castLE hsub0))) (BitVec 32))
    (hbody : ∀ k acc, body k acc = tripProg (F := F) ((L 0).castLE hcore0) ((L 1).castLE hsub0) (Memref.whole main_v26_scv : Memref sig .scVector .hbm S36x100000 .f32) oV sRow (Memref.isWhole_whole _) sOch (Memref.isWhole_whole _) s1 s2 s3
        (k0_off1851 L k) (inbT k) (k0_off1869 L k) (inbA k) (k0_off1887 L k) (inbB k) (la k) (lb k))
    (idxA idxB : Memref sig .scVector .vmem S8192 .i32)
    (fa : Buf (Elt F) (idxA.view.loc (V d ((L 0).castLE hcore0) ((L 1).castLE hsub0)))) (fb : Buf (Elt F) (idxB.view.loc (V d ((L 0).castLE hcore0) ((L 1).castLE hsub0)))) (fx : S26x16384.Idx → BitVec 32)
    (hla : ∀ k, GatherRule (F := F) ((L 0).castLE hcore0) ((L 1).castLE hsub0) defs d (la k) sRow sOch (idxA.view.loc (V d ((L 0).castLE hcore0) ((L 1).castLE hsub0)) ↦{fullShare} fa) (idxA.view.read (Elt F) fa))
    (hlb : ∀ k, GatherRule (F := F) ((L 0).castLE hcore0) ((L 1).castLE hsub0) defs d (lb k) sRow sOch (idxB.view.loc (V d ((L 0).castLE hcore0) ((L 1).castLE hsub0)) ↦{fullShare} fb) (idxB.view.read (Elt F) fb))
    (hidx : 0 < (k0_t151_loop L).trips →
      (∀ y : S8192.Idx, idxA.view.read (Elt F) fa y = fx (ix2 ⟨25, by decide⟩ ⟨(y 0).val, Nat.lt_of_lt_of_le (y 0).isLt (by decide)⟩))
      ∧ (∀ y : S8192.Idx, idxB.view.read (Elt F) fb y = fx (ix2 ⟨25, by decide⟩ ⟨(y 0).val + 8192, Nat.add_lt_add_right (y 0).isLt 8192⟩)))
    (O : CellTallies nD τ sig (HIx 1)) (W0 : Waits sig (HIx 1)) (q : PosShare TreeShare)
    (ft : Buf (Elt F) ((Memref.whole main_v26_scv : Memref sig .scVector .hbm S36x100000 .f32).view.loc (V d ((L 0).castLE hcore0) ((L 1).castLE hsub0))))
    (Tset : Finset S936x16384.Idx) (lo hi : ℕ) (hT : ∀ x, x ∈ Tset ↔ lo ≤ (x 0).val ∧ (x 0).val < hi)
    (hlo : 0 < (k0_t151_loop L).trips → lo ≤ 900 + dlo (wid L) 25) (hhi : 0 < (k0_t151_loop L).trips → 900 + dlo (wid L) 25 + (k0_t151_loop L).trips ≤ hi)
    (G g0 : Buf (Elt F) (oV.view.loc (V d ((L 0).castLE hcore0) ((L 1).castLE hsub0))))
    (hG : ∀ x : S936x16384.Idx, 900 + dlo (wid L) 25 ≤ (x 0).val → (x 0).val < 900 + dlo (wid L) 25 + (k0_t151_loop L).trips →
      G x = ft (tIx (x 0).val (fx (ix2 ⟨25, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v26_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (900 + dlo (wid L) 25) 0 init
        ∗ (∀ acc, rowsInv (F := F) ((L 0).castLE hcore0) ((L 1).castLE hsub0) d (Memref.whole main_v26_scv : Memref sig .scVector .hbm S36x100000 .f32) s1 s2 s3 (idxA.view.loc (V d ((L 0).castLE hcore0) ((L 1).castLE hsub0)) ↦{fullShare} fa) (idxB.view.loc (V d ((L 0).castLE hcore0) ((L 1).castLE hsub0)) ↦{fullShare} fb) O W0 q ft Tset G g0 (900 + dlo (wid L) 25) (k0_t151_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ (Scf.Loop.for (k0_t151_loop L) hok init body >>= kk) Q := by
  have htr := t151_trips L
  have h1 := dlo_le_dhi (wid L) 25
  have h2 := dhi_le (wid L) 25
  exact field_loop (F := F) ((L 0).castLE hcore0) ((L 1).castLE hsub0) defs d (Memref.whole main_v26_scv : Memref sig .scVector .hbm S36x100000 .f32) (Memref.isWhole_whole _) s1 s2 s3 (k0_t151_loop L) hok init body
    (k0_off1851 L) inbT (k0_off1869 L) inbA (k0_off1887 L) inbB la lb hbody idxA idxB fa fb (fun b => fx (ix2 ⟨25, by decide⟩ b)) hla hlb hidx
    O W0 q ft ft (src_read_26 (F := F) d ((L 0).castLE hcore0) ((L 1).castLE hsub0) ft) Tset lo hi hT G g0 900 (dlo (wid L) 25) (900 + dlo (wid L) 25)
    rfl (by decide) (by omega) hlo hhi (off1851_eq L) (off1869_eq L) (off1887_eq L) hG kk Q

end Cert.Proof.BodyRowBits
-- ==== Proof.BodyGatherBits.T2.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t2` (field 0, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t2_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v41 : BitVec 32) (c1_i32_21 : BitVec 32) (k0_t1 : Fin (k0_t1_loop i).trips) :
    Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1 = fun k acc => gTrip arg31 arg30 arg33 k k0_chk1.dec k0_chk2.dec k0_chk3.dec k0_chk4.dec k0_chk5.dec k0_chk6.dec k0_chk7.dec k0_chk8.dec k0_chk9.dec k0_chk10.dec k0_chk11.dec k0_chk12.dec k0_chk13.dec k0_chk14.dec k0_chk15.dec k0_chk16.dec 0#32 := rfl

/-- The gather loop `k0_t2` ahead of a continuation: the index and row buffers read (any share), every
    index word naming a row; the output buffer left reading the gather. -/
theorem loop_t2 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v41 : BitVec 32} {c1_i32_21 : BitVec 32} {k0_t1 : Fin (k0_t1_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t2_loop Gen.k0_t2_ok 0#32 (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) >>= kk) Q :=
  gLoop_wp 𝒱 bd E d _ _ arg31 arg30 arg33 Gen.k0_t2_ok 0#32 _ k0_chk1.dec k0_chk2.dec k0_chk3.dec k0_chk4.dec k0_chk5.dec k0_chk6.dec k0_chk7.dec k0_chk8.dec k0_chk9.dec k0_chk10.dec k0_chk11.dec k0_chk12.dec k0_chk13.dec k0_chk14.dec k0_chk15.dec k0_chk16.dec 0#32
    (fun k acc => congrFun (congrFun (t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) k) acc) kk qi qr fI fR fO hI

end Cert.Kernel.Gather
-- ==== Proof.BodyGatherBits.T3.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t3` (field 0, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t3_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v41 : BitVec 32) (c1_i32_21 : BitVec 32) (k0_t1 : Fin (k0_t1_loop i).trips) :
    Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1 = fun k acc => gTrip arg32 arg30 arg33 k k0_chk17.dec k0_chk18.dec k0_chk19.dec k0_chk20.dec k0_chk21.dec k0_chk22.dec k0_chk23.dec k0_chk24.dec k0_chk25.dec k0_chk26.dec k0_chk27.dec k0_chk28.dec k0_chk29.dec k0_chk30.dec k0_chk31.dec k0_chk32.dec 0#32 := rfl

/-- The gather loop `k0_t3` ahead of a continuation: the index and row buffers read (any share), every
    index word naming a row; the output buffer left reading the gather. -/
theorem loop_t3 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v41 : BitVec 32} {c1_i32_21 : BitVec 32} {k0_t1 : Fin (k0_t1_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t3_loop Gen.k0_t3_ok 0#32 (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) >>= kk) Q :=
  gLoop_wp 𝒱 bd E d _ _ arg32 arg30 arg33 Gen.k0_t3_ok 0#32 _ k0_chk17.dec k0_chk18.dec k0_chk19.dec k0_chk20.dec k0_chk21.dec k0_chk22.dec k0_chk23.dec k0_chk24.dec k0_chk25.dec k0_chk26.dec k0_chk27.dec k0_chk28.dec k0_chk29.dec k0_chk30.dec k0_chk31.dec k0_chk32.dec 0#32
    (fun k acc => congrFun (congrFun (t3_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v41 c1_i32_21 k0_t1) k) acc) kk qi qr fI fR fO hI

end Cert.Kernel.Gather
-- ==== Proof.BodyGatherBits.T8.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t8` (field 1, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t8_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v57 : BitVec 32) (c1_i32_32 : BitVec 32) (k0_t7 : Fin (k0_t7_loop i).trips) :
    Gen.k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7 = fun k acc => gTrip arg31 arg30 arg33 k k0_chk65.dec k0_chk66.dec k0_chk67.dec k0_chk68.dec k0_chk69.dec k0_chk70.dec k0_chk71.dec k0_chk72.dec k0_chk73.dec k0_chk74.dec k0_chk75.dec k0_chk76.dec k0_chk77.dec k0_chk78.dec k0_chk79.dec k0_chk80.dec 0#32 := rfl

/-- The gather loop `k0_t8` ahead of a continuation: the index and row buffers read (any share), every
    index word naming a row; the output buffer left reading the gather. -/
theorem loop_t8 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v57 : BitVec 32} {c1_i32_32 : BitVec 32} {k0_t7 : Fin (k0_t7_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t8_loop Gen.k0_t8_ok 0#32 (Gen.k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) >>= kk) Q :=
  gLoop_wp 𝒱 bd E d _ _ arg31 arg30 arg33 Gen.k0_t8_ok 0#32 _ k0_chk65.dec k0_chk66.dec k0_chk67.dec k0_chk68.dec k0_chk69.dec k0_chk70.dec k0_chk71.dec k0_chk72.dec k0_chk73.dec k0_chk74.dec k0_chk75.dec k0_chk76.dec k0_chk77.dec k0_chk78.dec k0_chk79.dec k0_chk80.dec 0#32
    (fun k acc => congrFun (congrFun (t8_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) k) acc) kk qi qr fI fR fO hI

end Cert.Kernel.Gather
-- ==== Proof.BodyGatherBits.T9.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t9` (field 1, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t9_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v57 : BitVec 32) (c1_i32_32 : BitVec 32) (k0_t7 : Fin (k0_t7_loop i).trips) :
    Gen.k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7 = fun k acc => gTrip arg32 arg30 arg33 k k0_chk81.dec k0_chk82.dec k0_chk83.dec k0_chk84.dec k0_chk85.dec k0_chk86.dec k0_chk87.dec k0_chk88.dec k0_chk89.dec k0_chk90.dec k0_chk91.dec k0_chk92.dec k0_chk93.dec k0_chk94.dec k0_chk95.dec k0_chk96.dec 0#32 := rfl

/-- The gather loop `k0_t9` ahead of a continuation: the index and row buffers read (any share), every
    index word naming a row; the output buffer left reading the gather. -/
theorem loop_t9 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v57 : BitVec 32} {c1_i32_32 : BitVec 32} {k0_t7 : Fin (k0_t7_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t9_loop Gen.k0_t9_ok 0#32 (Gen.k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) >>= kk) Q :=
  gLoop_wp 𝒱 bd E d _ _ arg32 arg30 arg33 Gen.k0_t9_ok 0#32 _ k0_chk81.dec k0_chk82.dec k0_chk83.dec k0_chk84.dec k0_chk85.dec k0_chk86.dec k0_chk87.dec k0_chk88.dec k0_chk89.dec k0_chk90.dec k0_chk91.dec k0_chk92.dec k0_chk93.dec k0_chk94.dec k0_chk95.dec k0_chk96.dec 0#32
    (fun k acc => congrFun (congrFun (t9_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v57 c1_i32_32 k0_t7) k) acc) kk qi qr fI fR fO hI

end Cert.Kernel.Gather
-- ==== Proof.BodyGatherBits.T14.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t14` (field 2, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t14_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v73 : BitVec 32) (c1_i32_42 : BitVec 32) (k0_t13 : Fin (k0_t13_loop i).trips) :
    Gen.k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13 = fun k acc => gTrip arg31 arg30 arg33 k k0_chk129.dec k0_chk130.dec k0_chk131.dec k0_chk132.dec k0_chk133.dec k0_chk134.dec k0_chk135.dec k0_chk136.dec k0_chk137.dec k0_chk138.dec k0_chk139.dec k0_chk140.dec k0_chk141.dec k0_chk142.dec k0_chk143.dec k0_chk144.dec 0#32 := rfl

/-- The gather loop `k0_t14` ahead of a continuation: the index and row buffers read (any share), every
    index word naming a row; the output buffer left reading the gather. -/
theorem loop_t14 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v73 : BitVec 32} {c1_i32_42 : BitVec 32} {k0_t13 : Fin (k0_t13_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t14_loop Gen.k0_t14_ok 0#32 (Gen.k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) >>= kk) Q :=
  gLoop_wp 𝒱 bd E d _ _ arg31 arg30 arg33 Gen.k0_t14_ok 0#32 _ k0_chk129.dec k0_chk130.dec k0_chk131.dec k0_chk132.dec k0_chk133.dec k0_chk134.dec k0_chk135.dec k0_chk136.dec k0_chk137.dec k0_chk138.dec k0_chk139.dec k0_chk140.dec k0_chk141.dec k0_chk142.dec k0_chk143.dec k0_chk144.dec 0#32
    (fun k acc => congrFun (congrFun (t14_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) k) acc) kk qi qr fI fR fO hI

end Cert.Kernel.Gather
-- ==== Proof.BodyGatherBits.T15.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t15` (field 2, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t15_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v73 : BitVec 32) (c1_i32_42 : BitVec 32) (k0_t13 : Fin (k0_t13_loop i).trips) :
    Gen.k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13 = fun k acc => gTrip arg32 arg30 arg33 k k0_chk145.dec k0_chk146.dec k0_chk147.dec k0_chk148.dec k0_chk149.dec k0_chk150.dec k0_chk151.dec k0_chk152.dec k0_chk153.dec k0_chk154.dec k0_chk155.dec k0_chk156.dec k0_chk157.dec k0_chk158.dec k0_chk159.dec k0_chk160.dec 0#32 := rfl

/-- The gather loop `k0_t15` ahead of a continuation: the index and row buffers read (any share), every
    index word naming a row; the output buffer left reading the gather. -/
theorem loop_t15 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v73 : BitVec 32} {c1_i32_42 : BitVec 32} {k0_t13 : Fin (k0_t13_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t15_loop Gen.k0_t15_ok 0#32 (Gen.k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) >>= kk) Q :=
  gLoop_wp 𝒱 bd E d _ _ arg32 arg30 arg33 Gen.k0_t15_ok 0#32 _ k0_chk145.dec k0_chk146.dec k0_chk147.dec k0_chk148.dec k0_chk149.dec k0_chk150.dec k0_chk151.dec k0_chk152.dec k0_chk153.dec k0_chk154.dec k0_chk155.dec k0_chk156.dec k0_chk157.dec k0_chk158.dec k0_chk159.dec k0_chk160.dec 0#32
    (fun k acc => congrFun (congrFun (t15_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v73 c1_i32_42 k0_t13) k) acc) kk qi qr fI fR fO hI

end Cert.Kernel.Gather
-- ==== Proof.BodyGatherBits.T20.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t20` (field 3, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t20_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v89 : BitVec 32) (c1_i32_52 : BitVec 32) (k0_t19 : Fin (k0_t19_loop i).trips) :
    Gen.k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19 = fun k acc => gTrip arg31 arg30 arg33 k k0_chk193.dec k0_chk194.dec k0_chk195.dec k0_chk196.dec k0_chk197.dec k0_chk198.dec k0_chk199.dec k0_chk200.dec k0_chk201.dec k0_chk202.dec k0_chk203.dec k0_chk204.dec k0_chk205.dec k0_chk206.dec k0_chk207.dec k0_chk208.dec 0#32 := rfl

/-- The gather loop `k0_t20` ahead of a continuation: the index and row buffers read (any share), every
    index word naming a row; the output buffer left reading the gather. -/
theorem loop_t20 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v89 : BitVec 32} {c1_i32_52 : BitVec 32} {k0_t19 : Fin (k0_t19_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t20_loop Gen.k0_t20_ok 0#32 (Gen.k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) >>= kk) Q :=
  gLoop_wp 𝒱 bd E d _ _ arg31 arg30 arg33 Gen.k0_t20_ok 0#32 _ k0_chk193.dec k0_chk194.dec k0_chk195.dec k0_chk196.dec k0_chk197.dec k0_chk198.dec k0_chk199.dec k0_chk200.dec k0_chk201.dec k0_chk202.dec k0_chk203.dec k0_chk204.dec k0_chk205.dec k0_chk206.dec k0_chk207.dec k0_chk208.dec 0#32
    (fun k acc => congrFun (congrFun (t20_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) k) acc) kk qi qr fI fR fO hI

end Cert.Kernel.Gather
-- ==== Proof.BodyGatherBits.T21.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t21` (field 3, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t21_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v89 : BitVec 32) (c1_i32_52 : BitVec 32) (k0_t19 : Fin (k0_t19_loop i).trips) :
    Gen.k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19 = fun k acc => gTrip arg32 arg30 arg33 k k0_chk209.dec k0_chk210.dec k0_chk211.dec k0_chk212.dec k0_chk213.dec k0_chk214.dec k0_chk215.dec k0_chk216.dec k0_chk217.dec k0_chk218.dec k0_chk219.dec k0_chk220.dec k0_chk221.dec k0_chk222.dec k0_chk223.dec k0_chk224.dec 0#32 := rfl

/-- The gather loop `k0_t21` ahead of a continuation: the index and row buffers read (any share), every
    index word naming a row; the output buffer left reading the gather. -/
theorem loop_t21 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v89 : BitVec 32} {c1_i32_52 : BitVec 32} {k0_t19 : Fin (k0_t19_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t21_loop Gen.k0_t21_ok 0#32 (Gen.k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) >>= kk) Q :=
  gLoop_wp 𝒱 bd E d _ _ arg32 arg30 arg33 Gen.k0_t21_ok 0#32 _ k0_chk209.dec k0_chk210.dec k0_chk211.dec k0_chk212.dec k0_chk213.dec k0_chk214.dec k0_chk215.dec k0_chk216.dec k0_chk217.dec k0_chk218.dec k0_chk219.dec k0_chk220.dec k0_chk221.dec k0_chk222.dec k0_chk223.dec k0_chk224.dec 0#32
    (fun k acc => congrFun (congrFun (t21_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v89 c1_i32_52 k0_t19) k) acc) kk qi qr fI fR fO hI

end Cert.Kernel.Gather
-- ==== Proof.BodyGatherBits.T26.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t26` (field 4, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t26_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v105 : BitVec 32) (c1_i32_62 : BitVec 32) (k0_t25 : Fin (k0_t25_loop i).trips) :
    Gen.k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25 = fun k acc => gTrip arg31 arg30 arg33 k k0_chk257.dec k0_chk258.dec k0_chk259.dec k0_chk260.dec k0_chk261.dec k0_chk262.dec k0_chk263.dec k0_chk264.dec k0_chk265.dec k0_chk266.dec k0_chk267.dec k0_chk268.dec k0_chk269.dec k0_chk270.dec k0_chk271.dec k0_chk272.dec 0#32 := rfl

/-- The gather loop `k0_t26` ahead of a continuation: the index and row buffers read (any share), every
    index word naming a row; the output buffer left reading the gather. -/
theorem loop_t26 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v105 : BitVec 32} {c1_i32_62 : BitVec 32} {k0_t25 : Fin (k0_t25_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t26_loop Gen.k0_t26_ok 0#32 (Gen.k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) >>= kk) Q :=
  gLoop_wp 𝒱 bd E d _ _ arg31 arg30 arg33 Gen.k0_t26_ok 0#32 _ k0_chk257.dec k0_chk258.dec k0_chk259.dec k0_chk260.dec k0_chk261.dec k0_chk262.dec k0_chk263.dec k0_chk264.dec k0_chk265.dec k0_chk266.dec k0_chk267.dec k0_chk268.dec k0_chk269.dec k0_chk270.dec k0_chk271.dec k0_chk272.dec 0#32
    (fun k acc => congrFun (congrFun (t26_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) k) acc) kk qi qr fI fR fO hI

end Cert.Kernel.Gather
-- ==== Proof.BodyGatherBits.T27.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t27` (field 4, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t27_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v105 : BitVec 32) (c1_i32_62 : BitVec 32) (k0_t25 : Fin (k0_t25_loop i).trips) :
    Gen.k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25 = fun k acc => gTrip arg32 arg30 arg33 k k0_chk273.dec k0_chk274.dec k0_chk275.dec k0_chk276.dec k0_chk277.dec k0_chk278.dec k0_chk279.dec k0_chk280.dec k0_chk281.dec k0_chk282.dec k0_chk283.dec k0_chk284.dec k0_chk285.dec k0_chk286.dec k0_chk287.dec k0_chk288.dec 0#32 := rfl

/-- The gather loop `k0_t27` ahead of a continuation: the index and row buffers read (any share), every
    index word naming a row; the output buffer left reading the gather. -/
theorem loop_t27 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v105 : BitVec 32} {c1_i32_62 : BitVec 32} {k0_t25 : Fin (k0_t25_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t27_loop Gen.k0_t27_ok 0#32 (Gen.k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) >>= kk) Q :=
  gLoop_wp 𝒱 bd E d _ _ arg32 arg30 arg33 Gen.k0_t27_ok 0#32 _ k0_chk273.dec k0_chk274.dec k0_chk275.dec k0_chk276.dec k0_chk277.dec k0_chk278.dec k0_chk279.dec k0_chk280.dec k0_chk281.dec k0_chk282.dec k0_chk283.dec k0_chk284.dec k0_chk285.dec k0_chk286.dec k0_chk287.dec k0_chk288.dec 0#32
    (fun k acc => congrFun (congrFun (t27_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v105 c1_i32_62 k0_t25) k) acc) kk qi qr fI fR fO hI

end Cert.Kernel.Gather
-- ==== Proof.BodyGatherBits.T32.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t32` (field 5, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t32_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v121 : BitVec 32) (c1_i32_72 : BitVec 32) (k0_t31 : Fin (k0_t31_loop i).trips) :
    Gen.k0_t32_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31 = fun k acc => gTrip arg31 arg30 arg33 k k0_chk321.dec k0_chk322.dec k0_chk323.dec k0_chk324.dec k0_chk325.dec k0_chk326.dec k0_chk327.dec k0_chk328.dec k0_chk329.dec k0_chk330.dec k0_chk331.dec k0_chk332.dec k0_chk333.dec k0_chk334.dec k0_chk335.dec k0_chk336.dec 0#32 := rfl

/-- The gather loop `k0_t32` ahead of a continuation: the index and row buffers read (any share), every
    index word naming a row; the output buffer left reading the gather. -/
theorem loop_t32 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v121 : BitVec 32} {c1_i32_72 : BitVec 32} {k0_t31 : Fin (k0_t31_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t32_loop Gen.k0_t32_ok 0#32 (Gen.k0_t32_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) >>= kk) Q :=
  gLoop_wp 𝒱 bd E d _ _ arg31 arg30 arg33 Gen.k0_t32_ok 0#32 _ k0_chk321.dec k0_chk322.dec k0_chk323.dec k0_chk324.dec k0_chk325.dec k0_chk326.dec k0_chk327.dec k0_chk328.dec k0_chk329.dec k0_chk330.dec k0_chk331.dec k0_chk332.dec k0_chk333.dec k0_chk334.dec k0_chk335.dec k0_chk336.dec 0#32
    (fun k acc => congrFun (congrFun (t32_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) k) acc) kk qi qr fI fR fO hI

end Cert.Kernel.Gather
-- ==== Proof.BodyGatherBits.T33.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t33` (field 5, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t33_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v121 : BitVec 32) (c1_i32_72 : BitVec 32) (k0_t31 : Fin (k0_t31_loop i).trips) :
    Gen.k0_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31 = fun k acc => gTrip arg32 arg30 arg33 k k0_chk337.dec k0_chk338.dec k0_chk339.dec k0_chk340.dec k0_chk341.dec k0_chk342.dec k0_chk343.dec k0_chk344.dec k0_chk345.dec k0_chk346.dec k0_chk347.dec k0_chk348.dec k0_chk349.dec k0_chk350.dec k0_chk351.dec k0_chk352.dec 0#32 := rfl

/-- The gather loop `k0_t33` ahead of a continuation: the index and row buffers read (any share), every
    index word naming a row; the output buffer left reading the gather. -/
theorem loop_t33 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v121 : BitVec 32} {c1_i32_72 : BitVec 32} {k0_t31 : Fin (k0_t31_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t33_loop Gen.k0_t33_ok 0#32 (Gen.k0_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) >>= kk) Q :=
  gLoop_wp 𝒱 bd E d _ _ arg32 arg30 arg33 Gen.k0_t33_ok 0#32 _ k0_chk337.dec k0_chk338.dec k0_chk339.dec k0_chk340.dec k0_chk341.dec k0_chk342.dec k0_chk343.dec k0_chk344.dec k0_chk345.dec k0_chk346.dec k0_chk347.dec k0_chk348.dec k0_chk349.dec k0_chk350.dec k0_chk351.dec k0_chk352.dec 0#32
    (fun k acc => congrFun (congrFun (t33_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v121 c1_i32_72 k0_t31) k) acc) kk qi qr fI fR fO hI

end Cert.Kernel.Gather
-- ==== Proof.BodyGatherBits.T38.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t38` (field 6, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t38_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v137 : BitVec 32) (c1_i32_82 : BitVec 32) (k0_t37 : Fin (k0_t37_loop i).trips) :
    Gen.k0_t38_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37 = fun k acc => gTrip arg31 arg30 arg33 k k0_chk385.dec k0_chk386.dec k0_chk387.dec k0_chk388.dec k0_chk389.dec k0_chk390.dec k0_chk391.dec k0_chk392.dec k0_chk393.dec k0_chk394.dec k0_chk395.dec k0_chk396.dec k0_chk397.dec k0_chk398.dec k0_chk399.dec k0_chk400.dec 0#32 := rfl

/-- The gather loop `k0_t38` ahead of a continuation: the index and row buffers read (any share), every
    index word naming a row; the output buffer left reading the gather. -/
theorem loop_t38 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v137 : BitVec 32} {c1_i32_82 : BitVec 32} {k0_t37 : Fin (k0_t37_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t38_loop Gen.k0_t38_ok 0#32 (Gen.k0_t38_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) >>= kk) Q :=
  gLoop_wp 𝒱 bd E d _ _ arg31 arg30 arg33 Gen.k0_t38_ok 0#32 _ k0_chk385.dec k0_chk386.dec k0_chk387.dec k0_chk388.dec k0_chk389.dec k0_chk390.dec k0_chk391.dec k0_chk392.dec k0_chk393.dec k0_chk394.dec k0_chk395.dec k0_chk396.dec k0_chk397.dec k0_chk398.dec k0_chk399.dec k0_chk400.dec 0#32
    (fun k acc => congrFun (congrFun (t38_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) k) acc) kk qi qr fI fR fO hI

end Cert.Kernel.Gather
-- ==== Proof.BodyGatherBits.T39.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t39` (field 6, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t39_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v137 : BitVec 32) (c1_i32_82 : BitVec 32) (k0_t37 : Fin (k0_t37_loop i).trips) :
    Gen.k0_t39_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37 = fun k acc => gTrip arg32 arg30 arg33 k k0_chk401.dec k0_chk402.dec k0_chk403.dec k0_chk404.dec k0_chk405.dec k0_chk406.dec k0_chk407.dec k0_chk408.dec k0_chk409.dec k0_chk410.dec k0_chk411.dec k0_chk412.dec k0_chk413.dec k0_chk414.dec k0_chk415.dec k0_chk416.dec 0#32 := rfl

/-- The gather loop `k0_t39` ahead of a continuation: the index and row buffers read (any share), every
    index word naming a row; the output buffer left reading the gather. -/
theorem loop_t39 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v137 : BitVec 32} {c1_i32_82 : BitVec 32} {k0_t37 : Fin (k0_t37_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t39_loop Gen.k0_t39_ok 0#32 (Gen.k0_t39_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) >>= kk) Q :=
  gLoop_wp 𝒱 bd E d _ _ arg32 arg30 arg33 Gen.k0_t39_ok 0#32 _ k0_chk401.dec k0_chk402.dec k0_chk403.dec k0_chk404.dec k0_chk405.dec k0_chk406.dec k0_chk407.dec k0_chk408.dec k0_chk409.dec k0_chk410.dec k0_chk411.dec k0_chk412.dec k0_chk413.dec k0_chk414.dec k0_chk415.dec k0_chk416.dec 0#32
    (fun k acc => congrFun (congrFun (t39_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v137 c1_i32_82 k0_t37) k) acc) kk qi qr fI fR fO hI

end Cert.Kernel.Gather
-- ==== Proof.BodyGatherBits.T44.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t44` (field 7, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t44_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v153 : BitVec 32) (c1_i32_92 : BitVec 32) (k0_t43 : Fin (k0_t43_loop i).trips) :
    Gen.k0_t44_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43 = fun k acc => gTrip arg31 arg30 arg33 k k0_chk449.dec k0_chk450.dec k0_chk451.dec k0_chk452.dec k0_chk453.dec k0_chk454.dec k0_chk455.dec k0_chk456.dec k0_chk457.dec k0_chk458.dec k0_chk459.dec k0_chk460.dec k0_chk461.dec k0_chk462.dec k0_chk463.dec k0_chk464.dec 0#32 := rfl

/-- The gather loop `k0_t44` ahead of a continuation: the index and row buffers read (any share), every
    index word naming a row; the output buffer left reading the gather. -/
theorem loop_t44 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v153 : BitVec 32} {c1_i32_92 : BitVec 32} {k0_t43 : Fin (k0_t43_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t44_loop Gen.k0_t44_ok 0#32 (Gen.k0_t44_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) >>= kk) Q :=
  gLoop_wp 𝒱 bd E d _ _ arg31 arg30 arg33 Gen.k0_t44_ok 0#32 _ k0_chk449.dec k0_chk450.dec k0_chk451.dec k0_chk452.dec k0_chk453.dec k0_chk454.dec k0_chk455.dec k0_chk456.dec k0_chk457.dec k0_chk458.dec k0_chk459.dec k0_chk460.dec k0_chk461.dec k0_chk462.dec k0_chk463.dec k0_chk464.dec 0#32
    (fun k acc => congrFun (congrFun (t44_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) k) acc) kk qi qr fI fR fO hI

end Cert.Kernel.Gather
-- ==== Proof.BodyGatherBits.T45.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t45` (field 7, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t45_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v153 : BitVec 32) (c1_i32_92 : BitVec 32) (k0_t43 : Fin (k0_t43_loop i).trips) :
    Gen.k0_t45_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43 = fun k acc => gTrip arg32 arg30 arg33 k k0_chk465.dec k0_chk466.dec k0_chk467.dec k0_chk468.dec k0_chk469.dec k0_chk470.dec k0_chk471.dec k0_chk472.dec k0_chk473.dec k0_chk474.dec k0_chk475.dec k0_chk476.dec k0_chk477.dec k0_chk478.dec k0_chk479.dec k0_chk480.dec 0#32 := rfl

/-- The gather loop `k0_t45` ahead of a continuation: the index and row buffers read (any share), every
    index word naming a row; the output buffer left reading the gather. -/
theorem loop_t45 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v153 : BitVec 32} {c1_i32_92 : BitVec 32} {k0_t43 : Fin (k0_t43_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t45_loop Gen.k0_t45_ok 0#32 (Gen.k0_t45_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) >>= kk) Q :=
  gLoop_wp 𝒱 bd E d _ _ arg32 arg30 arg33 Gen.k0_t45_ok 0#32 _ k0_chk465.dec k0_chk466.dec k0_chk467.dec k0_chk468.dec k0_chk469.dec k0_chk470.dec k0_chk471.dec k0_chk472.dec k0_chk473.dec k0_chk474.dec k0_chk475.dec k0_chk476.dec k0_chk477.dec k0_chk478.dec k0_chk479.dec k0_chk480.dec 0#32
    (fun k acc => congrFun (congrFun (t45_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v153 c1_i32_92 k0_t43) k) acc) kk qi qr fI fR fO hI

end Cert.Kernel.Gather
-- ==== Proof.BodyGatherBits.T50.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t50` (field 8, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t50_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v169 : BitVec 32) (c1_i32_102 : BitVec 32) (k0_t49 : Fin (k0_t49_loop i).trips) :
    Gen.k0_t50_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49 = fun k acc => gTrip arg31 arg30 arg33 k k0_chk513.dec k0_chk514.dec k0_chk515.dec k0_chk516.dec k0_chk517.dec k0_chk518.dec k0_chk519.dec k0_chk520.dec k0_chk521.dec k0_chk522.dec k0_chk523.dec k0_chk524.dec k0_chk525.dec k0_chk526.dec k0_chk527.dec k0_chk528.dec 0#32 := rfl

/-- The gather loop `k0_t50` ahead of a continuation: the index and row buffers read (any share), every
    index word naming a row; the output buffer left reading the gather. -/
theorem loop_t50 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v169 : BitVec 32} {c1_i32_102 : BitVec 32} {k0_t49 : Fin (k0_t49_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t50_loop Gen.k0_t50_ok 0#32 (Gen.k0_t50_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) >>= kk) Q :=
  gLoop_wp 𝒱 bd E d _ _ arg31 arg30 arg33 Gen.k0_t50_ok 0#32 _ k0_chk513.dec k0_chk514.dec k0_chk515.dec k0_chk516.dec k0_chk517.dec k0_chk518.dec k0_chk519.dec k0_chk520.dec k0_chk521.dec k0_chk522.dec k0_chk523.dec k0_chk524.dec k0_chk525.dec k0_chk526.dec k0_chk527.dec k0_chk528.dec 0#32
    (fun k acc => congrFun (congrFun (t50_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) k) acc) kk qi qr fI fR fO hI

end Cert.Kernel.Gather
-- ==== Proof.BodyGatherBits.T51.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t51` (field 8, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t51_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v169 : BitVec 32) (c1_i32_102 : BitVec 32) (k0_t49 : Fin (k0_t49_loop i).trips) :
    Gen.k0_t51_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49 = fun k acc => gTrip arg32 arg30 arg33 k k0_chk529.dec k0_chk530.dec k0_chk531.dec k0_chk532.dec k0_chk533.dec k0_chk534.dec k0_chk535.dec k0_chk536.dec k0_chk537.dec k0_chk538.dec k0_chk539.dec k0_chk540.dec k0_chk541.dec k0_chk542.dec k0_chk543.dec k0_chk544.dec 0#32 := rfl

/-- The gather loop `k0_t51` ahead of a continuation: the index and row buffers read (any share), every
    index word naming a row; the output buffer left reading the gather. -/
theorem loop_t51 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v169 : BitVec 32} {c1_i32_102 : BitVec 32} {k0_t49 : Fin (k0_t49_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t51_loop Gen.k0_t51_ok 0#32 (Gen.k0_t51_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) >>= kk) Q :=
  gLoop_wp 𝒱 bd E d _ _ arg32 arg30 arg33 Gen.k0_t51_ok 0#32 _ k0_chk529.dec k0_chk530.dec k0_chk531.dec k0_chk532.dec k0_chk533.dec k0_chk534.dec k0_chk535.dec k0_chk536.dec k0_chk537.dec k0_chk538.dec k0_chk539.dec k0_chk540.dec k0_chk541.dec k0_chk542.dec k0_chk543.dec k0_chk544.dec 0#32
    (fun k acc => congrFun (congrFun (t51_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v169 c1_i32_102 k0_t49) k) acc) kk qi qr fI fR fO hI

end Cert.Kernel.Gather
-- ==== Proof.BodyGatherBits.T56.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t56` (field 9, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t56_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v185 : BitVec 32) (c1_i32_112 : BitVec 32) (k0_t55 : Fin (k0_t55_loop i).trips) :
    Gen.k0_t56_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55 = fun k acc => gTrip arg31 arg30 arg33 k k0_chk577.dec k0_chk578.dec k0_chk579.dec k0_chk580.dec k0_chk581.dec k0_chk582.dec k0_chk583.dec k0_chk584.dec k0_chk585.dec k0_chk586.dec k0_chk587.dec k0_chk588.dec k0_chk589.dec k0_chk590.dec k0_chk591.dec k0_chk592.dec 0#32 := rfl

/-- The gather loop `k0_t56` ahead of a continuation: the index and row buffers read (any share), every
    index word naming a row; the output buffer left reading the gather. -/
theorem loop_t56 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v185 : BitVec 32} {c1_i32_112 : BitVec 32} {k0_t55 : Fin (k0_t55_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t56_loop Gen.k0_t56_ok 0#32 (Gen.k0_t56_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) >>= kk) Q :=
  gLoop_wp 𝒱 bd E d _ _ arg31 arg30 arg33 Gen.k0_t56_ok 0#32 _ k0_chk577.dec k0_chk578.dec k0_chk579.dec k0_chk580.dec k0_chk581.dec k0_chk582.dec k0_chk583.dec k0_chk584.dec k0_chk585.dec k0_chk586.dec k0_chk587.dec k0_chk588.dec k0_chk589.dec k0_chk590.dec k0_chk591.dec k0_chk592.dec 0#32
    (fun k acc => congrFun (congrFun (t56_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) k) acc) kk qi qr fI fR fO hI

end Cert.Kernel.Gather
-- ==== Proof.BodyGatherBits.T57.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t57` (field 9, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t57_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v185 : BitVec 32) (c1_i32_112 : BitVec 32) (k0_t55 : Fin (k0_t55_loop i).trips) :
    Gen.k0_t57_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55 = fun k acc => gTrip arg32 arg30 arg33 k k0_chk593.dec k0_chk594.dec k0_chk595.dec k0_chk596.dec k0_chk597.dec k0_chk598.dec k0_chk599.dec k0_chk600.dec k0_chk601.dec k0_chk602.dec k0_chk603.dec k0_chk604.dec k0_chk605.dec k0_chk606.dec k0_chk607.dec k0_chk608.dec 0#32 := rfl

/-- The gather loop `k0_t57` ahead of a continuation: the index and row buffers read (any share), every
    index word naming a row; the output buffer left reading the gather. -/
theorem loop_t57 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v185 : BitVec 32} {c1_i32_112 : BitVec 32} {k0_t55 : Fin (k0_t55_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t57_loop Gen.k0_t57_ok 0#32 (Gen.k0_t57_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) >>= kk) Q :=
  gLoop_wp 𝒱 bd E d _ _ arg32 arg30 arg33 Gen.k0_t57_ok 0#32 _ k0_chk593.dec k0_chk594.dec k0_chk595.dec k0_chk596.dec k0_chk597.dec k0_chk598.dec k0_chk599.dec k0_chk600.dec k0_chk601.dec k0_chk602.dec k0_chk603.dec k0_chk604.dec k0_chk605.dec k0_chk606.dec k0_chk607.dec k0_chk608.dec 0#32
    (fun k acc => congrFun (congrFun (t57_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v185 c1_i32_112 k0_t55) k) acc) kk qi qr fI fR fO hI

end Cert.Kernel.Gather
-- ==== Proof.BodyGatherBits.T62.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t62` (field 10, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t62_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v201 : BitVec 32) (c1_i32_122 : BitVec 32) (k0_t61 : Fin (k0_t61_loop i).trips) :
    Gen.k0_t62_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61 = fun k acc => gTrip arg31 arg30 arg33 k k0_chk641.dec k0_chk642.dec k0_chk643.dec k0_chk644.dec k0_chk645.dec k0_chk646.dec k0_chk647.dec k0_chk648.dec k0_chk649.dec k0_chk650.dec k0_chk651.dec k0_chk652.dec k0_chk653.dec k0_chk654.dec k0_chk655.dec k0_chk656.dec 0#32 := rfl

/-- The gather loop `k0_t62` ahead of a continuation: the index and row buffers read (any share), every
    index word naming a row; the output buffer left reading the gather. -/
theorem loop_t62 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v201 : BitVec 32} {c1_i32_122 : BitVec 32} {k0_t61 : Fin (k0_t61_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t62_loop Gen.k0_t62_ok 0#32 (Gen.k0_t62_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) >>= kk) Q :=
  gLoop_wp 𝒱 bd E d _ _ arg31 arg30 arg33 Gen.k0_t62_ok 0#32 _ k0_chk641.dec k0_chk642.dec k0_chk643.dec k0_chk644.dec k0_chk645.dec k0_chk646.dec k0_chk647.dec k0_chk648.dec k0_chk649.dec k0_chk650.dec k0_chk651.dec k0_chk652.dec k0_chk653.dec k0_chk654.dec k0_chk655.dec k0_chk656.dec 0#32
    (fun k acc => congrFun (congrFun (t62_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) k) acc) kk qi qr fI fR fO hI

end Cert.Kernel.Gather
-- ==== Proof.BodyGatherBits.T63.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t63` (field 10, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t63_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v201 : BitVec 32) (c1_i32_122 : BitVec 32) (k0_t61 : Fin (k0_t61_loop i).trips) :
    Gen.k0_t63_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61 = fun k acc => gTrip arg32 arg30 arg33 k k0_chk657.dec k0_chk658.dec k0_chk659.dec k0_chk660.dec k0_chk661.dec k0_chk662.dec k0_chk663.dec k0_chk664.dec k0_chk665.dec k0_chk666.dec k0_chk667.dec k0_chk668.dec k0_chk669.dec k0_chk670.dec k0_chk671.dec k0_chk672.dec 0#32 := rfl

/-- The gather loop `k0_t63` ahead of a continuation: the index and row buffers read (any share), every
    index word naming a row; the output buffer left reading the gather. -/
theorem loop_t63 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v201 : BitVec 32} {c1_i32_122 : BitVec 32} {k0_t61 : Fin (k0_t61_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t63_loop Gen.k0_t63_ok 0#32 (Gen.k0_t63_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) >>= kk) Q :=
  gLoop_wp 𝒱 bd E d _ _ arg32 arg30 arg33 Gen.k0_t63_ok 0#32 _ k0_chk657.dec k0_chk658.dec k0_chk659.dec k0_chk660.dec k0_chk661.dec k0_chk662.dec k0_chk663.dec k0_chk664.dec k0_chk665.dec k0_chk666.dec k0_chk667.dec k0_chk668.dec k0_chk669.dec k0_chk670.dec k0_chk671.dec k0_chk672.dec 0#32
    (fun k acc => congrFun (congrFun (t63_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v201 c1_i32_122 k0_t61) k) acc) kk qi qr fI fR fO hI

end Cert.Kernel.Gather
-- ==== Proof.BodyGatherBits.T68.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t68` (field 11, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t68_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v217 : BitVec 32) (c1_i32_132 : BitVec 32) (k0_t67 : Fin (k0_t67_loop i).trips) :
    Gen.k0_t68_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67 = fun k acc => gTrip arg31 arg30 arg33 k k0_chk705.dec k0_chk706.dec k0_chk707.dec k0_chk708.dec k0_chk709.dec k0_chk710.dec k0_chk711.dec k0_chk712.dec k0_chk713.dec k0_chk714.dec k0_chk715.dec k0_chk716.dec k0_chk717.dec k0_chk718.dec k0_chk719.dec k0_chk720.dec 0#32 := rfl

/-- The gather loop `k0_t68` ahead of a continuation: the index and row buffers read (any share), every
    index word naming a row; the output buffer left reading the gather. -/
theorem loop_t68 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v217 : BitVec 32} {c1_i32_132 : BitVec 32} {k0_t67 : Fin (k0_t67_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t68_loop Gen.k0_t68_ok 0#32 (Gen.k0_t68_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) >>= kk) Q :=
  gLoop_wp 𝒱 bd E d _ _ arg31 arg30 arg33 Gen.k0_t68_ok 0#32 _ k0_chk705.dec k0_chk706.dec k0_chk707.dec k0_chk708.dec k0_chk709.dec k0_chk710.dec k0_chk711.dec k0_chk712.dec k0_chk713.dec k0_chk714.dec k0_chk715.dec k0_chk716.dec k0_chk717.dec k0_chk718.dec k0_chk719.dec k0_chk720.dec 0#32
    (fun k acc => congrFun (congrFun (t68_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) k) acc) kk qi qr fI fR fO hI

end Cert.Kernel.Gather
-- ==== Proof.BodyGatherBits.T69.lean ====
import proofs.«204037_g66941360275737_cont_sun_c4_657_24_alg».proof.Proof.Gen.Kernel.Skeleton.P01
import proofs.«204037_g66941360275737_cont_sun_c4_657_24_alg».proof.Proof.BodyGatherBits

/-!
# The gather loop `k0_t69` (field 11, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t69_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v217 : BitVec 32) (c1_i32_132 : BitVec 32) (k0_t67 : Fin (k0_t67_loop i).trips) :
    Gen.k0_t69_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67 = fun k acc => gTrip arg32 arg30 arg33 k k0_chk721.dec k0_chk722.dec k0_chk723.dec k0_chk724.dec k0_chk725.dec k0_chk726.dec k0_chk727.dec k0_chk728.dec k0_chk729.dec k0_chk730.dec k0_chk731.dec k0_chk732.dec k0_chk733.dec k0_chk734.dec k0_chk735.dec k0_chk736.dec 0#32 := rfl

/-- The gather loop `k0_t69` ahead of a continuation: the index and row buffers read (any share), every
    index word naming a row; the output buffer left reading the gather. -/
theorem loop_t69 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v217 : BitVec 32} {c1_i32_132 : BitVec 32} {k0_t67 : Fin (k0_t67_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t69_loop Gen.k0_t69_ok 0#32 (Gen.k0_t69_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) >>= kk) Q :=
  gLoop_wp 𝒱 bd E d _ _ arg32 arg30 arg33 Gen.k0_t69_ok 0#32 _ k0_chk721.dec k0_chk722.dec k0_chk723.dec k0_chk724.dec k0_chk725.dec k0_chk726.dec k0_chk727.dec k0_chk728.dec k0_chk729.dec k0_chk730.dec k0_chk731.dec k0_chk732.dec k0_chk733.dec k0_chk734.dec k0_chk735.dec k0_chk736.dec 0#32
    (fun k acc => congrFun (congrFun (t69_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v217 c1_i32_132 k0_t67) k) acc) kk qi qr fI fR fO hI

end Cert.Kernel.Gather
-- ==== Proof.BodyGatherBits.T74.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t74` (field 12, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t74_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v233 : BitVec 32) (c1_i32_142 : BitVec 32) (k0_t73 : Fin (k0_t73_loop i).trips) :
    Gen.k0_t74_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73 = fun k acc => gTrip arg31 arg30 arg33 k k0_chk769.dec k0_chk770.dec k0_chk771.dec k0_chk772.dec k0_chk773.dec k0_chk774.dec k0_chk775.dec k0_chk776.dec k0_chk777.dec k0_chk778.dec k0_chk779.dec k0_chk780.dec k0_chk781.dec k0_chk782.dec k0_chk783.dec k0_chk784.dec 0#32 := rfl

/-- The gather loop `k0_t74` ahead of a continuation: the index and row buffers read (any share), every
    index word naming a row; the output buffer left reading the gather. -/
theorem loop_t74 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v233 : BitVec 32} {c1_i32_142 : BitVec 32} {k0_t73 : Fin (k0_t73_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t74_loop Gen.k0_t74_ok 0#32 (Gen.k0_t74_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) >>= kk) Q :=
  gLoop_wp 𝒱 bd E d _ _ arg31 arg30 arg33 Gen.k0_t74_ok 0#32 _ k0_chk769.dec k0_chk770.dec k0_chk771.dec k0_chk772.dec k0_chk773.dec k0_chk774.dec k0_chk775.dec k0_chk776.dec k0_chk777.dec k0_chk778.dec k0_chk779.dec k0_chk780.dec k0_chk781.dec k0_chk782.dec k0_chk783.dec k0_chk784.dec 0#32
    (fun k acc => congrFun (congrFun (t74_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) k) acc) kk qi qr fI fR fO hI

end Cert.Kernel.Gather
-- ==== Proof.BodyGatherBits.T75.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t75` (field 12, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t75_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v233 : BitVec 32) (c1_i32_142 : BitVec 32) (k0_t73 : Fin (k0_t73_loop i).trips) :
    Gen.k0_t75_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73 = fun k acc => gTrip arg32 arg30 arg33 k k0_chk785.dec k0_chk786.dec k0_chk787.dec k0_chk788.dec k0_chk789.dec k0_chk790.dec k0_chk791.dec k0_chk792.dec k0_chk793.dec k0_chk794.dec k0_chk795.dec k0_chk796.dec k0_chk797.dec k0_chk798.dec k0_chk799.dec k0_chk800.dec 0#32 := rfl

/-- The gather loop `k0_t75` ahead of a continuation: the index and row buffers read (any share), every
    index word naming a row; the output buffer left reading the gather. -/
theorem loop_t75 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v233 : BitVec 32} {c1_i32_142 : BitVec 32} {k0_t73 : Fin (k0_t73_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t75_loop Gen.k0_t75_ok 0#32 (Gen.k0_t75_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) >>= kk) Q :=
  gLoop_wp 𝒱 bd E d _ _ arg32 arg30 arg33 Gen.k0_t75_ok 0#32 _ k0_chk785.dec k0_chk786.dec k0_chk787.dec k0_chk788.dec k0_chk789.dec k0_chk790.dec k0_chk791.dec k0_chk792.dec k0_chk793.dec k0_chk794.dec k0_chk795.dec k0_chk796.dec k0_chk797.dec k0_chk798.dec k0_chk799.dec k0_chk800.dec 0#32
    (fun k acc => congrFun (congrFun (t75_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v233 c1_i32_142 k0_t73) k) acc) kk qi qr fI fR fO hI

end Cert.Kernel.Gather
-- ==== Proof.BodyGatherBits.T80.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t80` (field 13, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t80_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v249 : BitVec 32) (c1_i32_152 : BitVec 32) (k0_t79 : Fin (k0_t79_loop i).trips) :
    Gen.k0_t80_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79 = fun k acc => gTrip arg31 arg30 arg33 k k0_chk833.dec k0_chk834.dec k0_chk835.dec k0_chk836.dec k0_chk837.dec k0_chk838.dec k0_chk839.dec k0_chk840.dec k0_chk841.dec k0_chk842.dec k0_chk843.dec k0_chk844.dec k0_chk845.dec k0_chk846.dec k0_chk847.dec k0_chk848.dec 0#32 := rfl

/-- The gather loop `k0_t80` ahead of a continuation: the index and row buffers read (any share), every
    index word naming a row; the output buffer left reading the gather. -/
theorem loop_t80 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v249 : BitVec 32} {c1_i32_152 : BitVec 32} {k0_t79 : Fin (k0_t79_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t80_loop Gen.k0_t80_ok 0#32 (Gen.k0_t80_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) >>= kk) Q :=
  gLoop_wp 𝒱 bd E d _ _ arg31 arg30 arg33 Gen.k0_t80_ok 0#32 _ k0_chk833.dec k0_chk834.dec k0_chk835.dec k0_chk836.dec k0_chk837.dec k0_chk838.dec k0_chk839.dec k0_chk840.dec k0_chk841.dec k0_chk842.dec k0_chk843.dec k0_chk844.dec k0_chk845.dec k0_chk846.dec k0_chk847.dec k0_chk848.dec 0#32
    (fun k acc => congrFun (congrFun (t80_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) k) acc) kk qi qr fI fR fO hI

end Cert.Kernel.Gather
-- ==== Proof.BodyGatherBits.T81.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t81` (field 13, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t81_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v249 : BitVec 32) (c1_i32_152 : BitVec 32) (k0_t79 : Fin (k0_t79_loop i).trips) :
    Gen.k0_t81_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79 = fun k acc => gTrip arg32 arg30 arg33 k k0_chk849.dec k0_chk850.dec k0_chk851.dec k0_chk852.dec k0_chk853.dec k0_chk854.dec k0_chk855.dec k0_chk856.dec k0_chk857.dec k0_chk858.dec k0_chk859.dec k0_chk860.dec k0_chk861.dec k0_chk862.dec k0_chk863.dec k0_chk864.dec 0#32 := rfl

/-- The gather loop `k0_t81` ahead of a continuation: the index and row buffers read (any share), every
    index word naming a row; the output buffer left reading the gather. -/
theorem loop_t81 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v249 : BitVec 32} {c1_i32_152 : BitVec 32} {k0_t79 : Fin (k0_t79_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t81_loop Gen.k0_t81_ok 0#32 (Gen.k0_t81_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) >>= kk) Q :=
  gLoop_wp 𝒱 bd E d _ _ arg32 arg30 arg33 Gen.k0_t81_ok 0#32 _ k0_chk849.dec k0_chk850.dec k0_chk851.dec k0_chk852.dec k0_chk853.dec k0_chk854.dec k0_chk855.dec k0_chk856.dec k0_chk857.dec k0_chk858.dec k0_chk859.dec k0_chk860.dec k0_chk861.dec k0_chk862.dec k0_chk863.dec k0_chk864.dec 0#32
    (fun k acc => congrFun (congrFun (t81_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v249 c1_i32_152 k0_t79) k) acc) kk qi qr fI fR fO hI

end Cert.Kernel.Gather
-- ==== Proof.BodyGatherBits.T86.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t86` (field 14, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t86_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v265 : BitVec 32) (c1_i32_162 : BitVec 32) (k0_t85 : Fin (k0_t85_loop i).trips) :
    Gen.k0_t86_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85 = fun k acc => gTrip arg31 arg30 arg33 k k0_chk897.dec k0_chk898.dec k0_chk899.dec k0_chk900.dec k0_chk901.dec k0_chk902.dec k0_chk903.dec k0_chk904.dec k0_chk905.dec k0_chk906.dec k0_chk907.dec k0_chk908.dec k0_chk909.dec k0_chk910.dec k0_chk911.dec k0_chk912.dec 0#32 := rfl

/-- The gather loop `k0_t86` ahead of a continuation: the index and row buffers read (any share), every
    index word naming a row; the output buffer left reading the gather. -/
theorem loop_t86 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v265 : BitVec 32} {c1_i32_162 : BitVec 32} {k0_t85 : Fin (k0_t85_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t86_loop Gen.k0_t86_ok 0#32 (Gen.k0_t86_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) >>= kk) Q :=
  gLoop_wp 𝒱 bd E d _ _ arg31 arg30 arg33 Gen.k0_t86_ok 0#32 _ k0_chk897.dec k0_chk898.dec k0_chk899.dec k0_chk900.dec k0_chk901.dec k0_chk902.dec k0_chk903.dec k0_chk904.dec k0_chk905.dec k0_chk906.dec k0_chk907.dec k0_chk908.dec k0_chk909.dec k0_chk910.dec k0_chk911.dec k0_chk912.dec 0#32
    (fun k acc => congrFun (congrFun (t86_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) k) acc) kk qi qr fI fR fO hI

end Cert.Kernel.Gather
-- ==== Proof.BodyGatherBits.T87.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t87` (field 14, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t87_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v265 : BitVec 32) (c1_i32_162 : BitVec 32) (k0_t85 : Fin (k0_t85_loop i).trips) :
    Gen.k0_t87_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85 = fun k acc => gTrip arg32 arg30 arg33 k k0_chk913.dec k0_chk914.dec k0_chk915.dec k0_chk916.dec k0_chk917.dec k0_chk918.dec k0_chk919.dec k0_chk920.dec k0_chk921.dec k0_chk922.dec k0_chk923.dec k0_chk924.dec k0_chk925.dec k0_chk926.dec k0_chk927.dec k0_chk928.dec 0#32 := rfl

/-- The gather loop `k0_t87` ahead of a continuation: the index and row buffers read (any share), every
    index word naming a row; the output buffer left reading the gather. -/
theorem loop_t87 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v265 : BitVec 32} {c1_i32_162 : BitVec 32} {k0_t85 : Fin (k0_t85_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t87_loop Gen.k0_t87_ok 0#32 (Gen.k0_t87_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) >>= kk) Q :=
  gLoop_wp 𝒱 bd E d _ _ arg32 arg30 arg33 Gen.k0_t87_ok 0#32 _ k0_chk913.dec k0_chk914.dec k0_chk915.dec k0_chk916.dec k0_chk917.dec k0_chk918.dec k0_chk919.dec k0_chk920.dec k0_chk921.dec k0_chk922.dec k0_chk923.dec k0_chk924.dec k0_chk925.dec k0_chk926.dec k0_chk927.dec k0_chk928.dec 0#32
    (fun k acc => congrFun (congrFun (t87_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v265 c1_i32_162 k0_t85) k) acc) kk qi qr fI fR fO hI

end Cert.Kernel.Gather
-- ==== Proof.BodyGatherBits.T92.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t92` (field 15, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t92_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v281 : BitVec 32) (c1_i32_172 : BitVec 32) (k0_t91 : Fin (k0_t91_loop i).trips) :
    Gen.k0_t92_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91 = fun k acc => gTrip arg31 arg30 arg33 k k0_chk961.dec k0_chk962.dec k0_chk963.dec k0_chk964.dec k0_chk965.dec k0_chk966.dec k0_chk967.dec k0_chk968.dec k0_chk969.dec k0_chk970.dec k0_chk971.dec k0_chk972.dec k0_chk973.dec k0_chk974.dec k0_chk975.dec k0_chk976.dec 0#32 := rfl

/-- The gather loop `k0_t92` ahead of a continuation: the index and row buffers read (any share), every
    index word naming a row; the output buffer left reading the gather. -/
theorem loop_t92 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v281 : BitVec 32} {c1_i32_172 : BitVec 32} {k0_t91 : Fin (k0_t91_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t92_loop Gen.k0_t92_ok 0#32 (Gen.k0_t92_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) >>= kk) Q :=
  gLoop_wp 𝒱 bd E d _ _ arg31 arg30 arg33 Gen.k0_t92_ok 0#32 _ k0_chk961.dec k0_chk962.dec k0_chk963.dec k0_chk964.dec k0_chk965.dec k0_chk966.dec k0_chk967.dec k0_chk968.dec k0_chk969.dec k0_chk970.dec k0_chk971.dec k0_chk972.dec k0_chk973.dec k0_chk974.dec k0_chk975.dec k0_chk976.dec 0#32
    (fun k acc => congrFun (congrFun (t92_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) k) acc) kk qi qr fI fR fO hI

end Cert.Kernel.Gather
-- ==== Proof.BodyGatherBits.T93.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t93` (field 15, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t93_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v281 : BitVec 32) (c1_i32_172 : BitVec 32) (k0_t91 : Fin (k0_t91_loop i).trips) :
    Gen.k0_t93_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91 = fun k acc => gTrip arg32 arg30 arg33 k k0_chk977.dec k0_chk978.dec k0_chk979.dec k0_chk980.dec k0_chk981.dec k0_chk982.dec k0_chk983.dec k0_chk984.dec k0_chk985.dec k0_chk986.dec k0_chk987.dec k0_chk988.dec k0_chk989.dec k0_chk990.dec k0_chk991.dec k0_chk992.dec 0#32 := rfl

/-- The gather loop `k0_t93` ahead of a continuation: the index and row buffers read (any share), every
    index word naming a row; the output buffer left reading the gather. -/
theorem loop_t93 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v281 : BitVec 32} {c1_i32_172 : BitVec 32} {k0_t91 : Fin (k0_t91_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t93_loop Gen.k0_t93_ok 0#32 (Gen.k0_t93_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) >>= kk) Q :=
  gLoop_wp 𝒱 bd E d _ _ arg32 arg30 arg33 Gen.k0_t93_ok 0#32 _ k0_chk977.dec k0_chk978.dec k0_chk979.dec k0_chk980.dec k0_chk981.dec k0_chk982.dec k0_chk983.dec k0_chk984.dec k0_chk985.dec k0_chk986.dec k0_chk987.dec k0_chk988.dec k0_chk989.dec k0_chk990.dec k0_chk991.dec k0_chk992.dec 0#32
    (fun k acc => congrFun (congrFun (t93_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v281 c1_i32_172 k0_t91) k) acc) kk qi qr fI fR fO hI

end Cert.Kernel.Gather
-- ==== Proof.BodyGatherBits.T98.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t98` (field 16, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t98_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v297 : BitVec 32) (c1_i32_182 : BitVec 32) (k0_t97 : Fin (k0_t97_loop i).trips) :
    Gen.k0_t98_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97 = fun k acc => gTrip arg31 arg30 arg33 k k0_chk1025.dec k0_chk1026.dec k0_chk1027.dec k0_chk1028.dec k0_chk1029.dec k0_chk1030.dec k0_chk1031.dec k0_chk1032.dec k0_chk1033.dec k0_chk1034.dec k0_chk1035.dec k0_chk1036.dec k0_chk1037.dec k0_chk1038.dec k0_chk1039.dec k0_chk1040.dec 0#32 := rfl

/-- The gather loop `k0_t98` ahead of a continuation: the index and row buffers read (any share), every
    index word naming a row; the output buffer left reading the gather. -/
theorem loop_t98 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v297 : BitVec 32} {c1_i32_182 : BitVec 32} {k0_t97 : Fin (k0_t97_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t98_loop Gen.k0_t98_ok 0#32 (Gen.k0_t98_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) >>= kk) Q :=
  gLoop_wp 𝒱 bd E d _ _ arg31 arg30 arg33 Gen.k0_t98_ok 0#32 _ k0_chk1025.dec k0_chk1026.dec k0_chk1027.dec k0_chk1028.dec k0_chk1029.dec k0_chk1030.dec k0_chk1031.dec k0_chk1032.dec k0_chk1033.dec k0_chk1034.dec k0_chk1035.dec k0_chk1036.dec k0_chk1037.dec k0_chk1038.dec k0_chk1039.dec k0_chk1040.dec 0#32
    (fun k acc => congrFun (congrFun (t98_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) k) acc) kk qi qr fI fR fO hI

end Cert.Kernel.Gather
-- ==== Proof.BodyGatherBits.T99.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t99` (field 16, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t99_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v297 : BitVec 32) (c1_i32_182 : BitVec 32) (k0_t97 : Fin (k0_t97_loop i).trips) :
    Gen.k0_t99_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97 = fun k acc => gTrip arg32 arg30 arg33 k k0_chk1041.dec k0_chk1042.dec k0_chk1043.dec k0_chk1044.dec k0_chk1045.dec k0_chk1046.dec k0_chk1047.dec k0_chk1048.dec k0_chk1049.dec k0_chk1050.dec k0_chk1051.dec k0_chk1052.dec k0_chk1053.dec k0_chk1054.dec k0_chk1055.dec k0_chk1056.dec 0#32 := rfl

/-- The gather loop `k0_t99` ahead of a continuation: the index and row buffers read (any share), every
    index word naming a row; the output buffer left reading the gather. -/
theorem loop_t99 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v297 : BitVec 32} {c1_i32_182 : BitVec 32} {k0_t97 : Fin (k0_t97_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t99_loop Gen.k0_t99_ok 0#32 (Gen.k0_t99_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) >>= kk) Q :=
  gLoop_wp 𝒱 bd E d _ _ arg32 arg30 arg33 Gen.k0_t99_ok 0#32 _ k0_chk1041.dec k0_chk1042.dec k0_chk1043.dec k0_chk1044.dec k0_chk1045.dec k0_chk1046.dec k0_chk1047.dec k0_chk1048.dec k0_chk1049.dec k0_chk1050.dec k0_chk1051.dec k0_chk1052.dec k0_chk1053.dec k0_chk1054.dec k0_chk1055.dec k0_chk1056.dec 0#32
    (fun k acc => congrFun (congrFun (t99_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v297 c1_i32_182 k0_t97) k) acc) kk qi qr fI fR fO hI

end Cert.Kernel.Gather
-- ==== Proof.BodyGatherBits.T104.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t104` (field 17, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t104_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v313 : BitVec 32) (c1_i32_192 : BitVec 32) (k0_t103 : Fin (k0_t103_loop i).trips) :
    Gen.k0_t104_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103 = fun k acc => gTrip arg31 arg30 arg33 k k0_chk1089.dec k0_chk1090.dec k0_chk1091.dec k0_chk1092.dec k0_chk1093.dec k0_chk1094.dec k0_chk1095.dec k0_chk1096.dec k0_chk1097.dec k0_chk1098.dec k0_chk1099.dec k0_chk1100.dec k0_chk1101.dec k0_chk1102.dec k0_chk1103.dec k0_chk1104.dec 0#32 := rfl

/-- The gather loop `k0_t104` ahead of a continuation: the index and row buffers read (any share), every
    index word naming a row; the output buffer left reading the gather. -/
theorem loop_t104 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v313 : BitVec 32} {c1_i32_192 : BitVec 32} {k0_t103 : Fin (k0_t103_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t104_loop Gen.k0_t104_ok 0#32 (Gen.k0_t104_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) >>= kk) Q :=
  gLoop_wp 𝒱 bd E d _ _ arg31 arg30 arg33 Gen.k0_t104_ok 0#32 _ k0_chk1089.dec k0_chk1090.dec k0_chk1091.dec k0_chk1092.dec k0_chk1093.dec k0_chk1094.dec k0_chk1095.dec k0_chk1096.dec k0_chk1097.dec k0_chk1098.dec k0_chk1099.dec k0_chk1100.dec k0_chk1101.dec k0_chk1102.dec k0_chk1103.dec k0_chk1104.dec 0#32
    (fun k acc => congrFun (congrFun (t104_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) k) acc) kk qi qr fI fR fO hI

end Cert.Kernel.Gather
-- ==== Proof.BodyGatherBits.T105.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t105` (field 17, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t105_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v313 : BitVec 32) (c1_i32_192 : BitVec 32) (k0_t103 : Fin (k0_t103_loop i).trips) :
    Gen.k0_t105_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103 = fun k acc => gTrip arg32 arg30 arg33 k k0_chk1105.dec k0_chk1106.dec k0_chk1107.dec k0_chk1108.dec k0_chk1109.dec k0_chk1110.dec k0_chk1111.dec k0_chk1112.dec k0_chk1113.dec k0_chk1114.dec k0_chk1115.dec k0_chk1116.dec k0_chk1117.dec k0_chk1118.dec k0_chk1119.dec k0_chk1120.dec 0#32 := rfl

/-- The gather loop `k0_t105` ahead of a continuation: the index and row buffers read (any share), every
    index word naming a row; the output buffer left reading the gather. -/
theorem loop_t105 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v313 : BitVec 32} {c1_i32_192 : BitVec 32} {k0_t103 : Fin (k0_t103_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t105_loop Gen.k0_t105_ok 0#32 (Gen.k0_t105_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) >>= kk) Q :=
  gLoop_wp 𝒱 bd E d _ _ arg32 arg30 arg33 Gen.k0_t105_ok 0#32 _ k0_chk1105.dec k0_chk1106.dec k0_chk1107.dec k0_chk1108.dec k0_chk1109.dec k0_chk1110.dec k0_chk1111.dec k0_chk1112.dec k0_chk1113.dec k0_chk1114.dec k0_chk1115.dec k0_chk1116.dec k0_chk1117.dec k0_chk1118.dec k0_chk1119.dec k0_chk1120.dec 0#32
    (fun k acc => congrFun (congrFun (t105_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v313 c1_i32_192 k0_t103) k) acc) kk qi qr fI fR fO hI

end Cert.Kernel.Gather
-- ==== Proof.BodyGatherBits.T110.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t110` (field 18, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t110_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v329 : BitVec 32) (c1_i32_202 : BitVec 32) (k0_t109 : Fin (k0_t109_loop i).trips) :
    Gen.k0_t110_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109 = fun k acc => gTrip arg31 arg30 arg33 k k0_chk1153.dec k0_chk1154.dec k0_chk1155.dec k0_chk1156.dec k0_chk1157.dec k0_chk1158.dec k0_chk1159.dec k0_chk1160.dec k0_chk1161.dec k0_chk1162.dec k0_chk1163.dec k0_chk1164.dec k0_chk1165.dec k0_chk1166.dec k0_chk1167.dec k0_chk1168.dec 0#32 := rfl

/-- The gather loop `k0_t110` ahead of a continuation: the index and row buffers read (any share), every
    index word naming a row; the output buffer left reading the gather. -/
theorem loop_t110 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v329 : BitVec 32} {c1_i32_202 : BitVec 32} {k0_t109 : Fin (k0_t109_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t110_loop Gen.k0_t110_ok 0#32 (Gen.k0_t110_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) >>= kk) Q :=
  gLoop_wp 𝒱 bd E d _ _ arg31 arg30 arg33 Gen.k0_t110_ok 0#32 _ k0_chk1153.dec k0_chk1154.dec k0_chk1155.dec k0_chk1156.dec k0_chk1157.dec k0_chk1158.dec k0_chk1159.dec k0_chk1160.dec k0_chk1161.dec k0_chk1162.dec k0_chk1163.dec k0_chk1164.dec k0_chk1165.dec k0_chk1166.dec k0_chk1167.dec k0_chk1168.dec 0#32
    (fun k acc => congrFun (congrFun (t110_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) k) acc) kk qi qr fI fR fO hI

end Cert.Kernel.Gather
-- ==== Proof.BodyGatherBits.T111.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t111` (field 18, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t111_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v329 : BitVec 32) (c1_i32_202 : BitVec 32) (k0_t109 : Fin (k0_t109_loop i).trips) :
    Gen.k0_t111_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109 = fun k acc => gTrip arg32 arg30 arg33 k k0_chk1169.dec k0_chk1170.dec k0_chk1171.dec k0_chk1172.dec k0_chk1173.dec k0_chk1174.dec k0_chk1175.dec k0_chk1176.dec k0_chk1177.dec k0_chk1178.dec k0_chk1179.dec k0_chk1180.dec k0_chk1181.dec k0_chk1182.dec k0_chk1183.dec k0_chk1184.dec 0#32 := rfl

/-- The gather loop `k0_t111` ahead of a continuation: the index and row buffers read (any share), every
    index word naming a row; the output buffer left reading the gather. -/
theorem loop_t111 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v329 : BitVec 32} {c1_i32_202 : BitVec 32} {k0_t109 : Fin (k0_t109_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t111_loop Gen.k0_t111_ok 0#32 (Gen.k0_t111_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) >>= kk) Q :=
  gLoop_wp 𝒱 bd E d _ _ arg32 arg30 arg33 Gen.k0_t111_ok 0#32 _ k0_chk1169.dec k0_chk1170.dec k0_chk1171.dec k0_chk1172.dec k0_chk1173.dec k0_chk1174.dec k0_chk1175.dec k0_chk1176.dec k0_chk1177.dec k0_chk1178.dec k0_chk1179.dec k0_chk1180.dec k0_chk1181.dec k0_chk1182.dec k0_chk1183.dec k0_chk1184.dec 0#32
    (fun k acc => congrFun (congrFun (t111_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v329 c1_i32_202 k0_t109) k) acc) kk qi qr fI fR fO hI

end Cert.Kernel.Gather
-- ==== Proof.BodyGatherBits.T116.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t116` (field 19, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t116_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v345 : BitVec 32) (c1_i32_212 : BitVec 32) (k0_t115 : Fin (k0_t115_loop i).trips) :
    Gen.k0_t116_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115 = fun k acc => gTrip arg31 arg30 arg33 k k0_chk1217.dec k0_chk1218.dec k0_chk1219.dec k0_chk1220.dec k0_chk1221.dec k0_chk1222.dec k0_chk1223.dec k0_chk1224.dec k0_chk1225.dec k0_chk1226.dec k0_chk1227.dec k0_chk1228.dec k0_chk1229.dec k0_chk1230.dec k0_chk1231.dec k0_chk1232.dec 0#32 := rfl

/-- The gather loop `k0_t116` ahead of a continuation: the index and row buffers read (any share), every
    index word naming a row; the output buffer left reading the gather. -/
theorem loop_t116 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v345 : BitVec 32} {c1_i32_212 : BitVec 32} {k0_t115 : Fin (k0_t115_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t116_loop Gen.k0_t116_ok 0#32 (Gen.k0_t116_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) >>= kk) Q :=
  gLoop_wp 𝒱 bd E d _ _ arg31 arg30 arg33 Gen.k0_t116_ok 0#32 _ k0_chk1217.dec k0_chk1218.dec k0_chk1219.dec k0_chk1220.dec k0_chk1221.dec k0_chk1222.dec k0_chk1223.dec k0_chk1224.dec k0_chk1225.dec k0_chk1226.dec k0_chk1227.dec k0_chk1228.dec k0_chk1229.dec k0_chk1230.dec k0_chk1231.dec k0_chk1232.dec 0#32
    (fun k acc => congrFun (congrFun (t116_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) k) acc) kk qi qr fI fR fO hI

end Cert.Kernel.Gather
-- ==== Proof.BodyGatherBits.T117.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t117` (field 19, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t117_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v345 : BitVec 32) (c1_i32_212 : BitVec 32) (k0_t115 : Fin (k0_t115_loop i).trips) :
    Gen.k0_t117_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115 = fun k acc => gTrip arg32 arg30 arg33 k k0_chk1233.dec k0_chk1234.dec k0_chk1235.dec k0_chk1236.dec k0_chk1237.dec k0_chk1238.dec k0_chk1239.dec k0_chk1240.dec k0_chk1241.dec k0_chk1242.dec k0_chk1243.dec k0_chk1244.dec k0_chk1245.dec k0_chk1246.dec k0_chk1247.dec k0_chk1248.dec 0#32 := rfl

/-- The gather loop `k0_t117` ahead of a continuation: the index and row buffers read (any share), every
    index word naming a row; the output buffer left reading the gather. -/
theorem loop_t117 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v345 : BitVec 32} {c1_i32_212 : BitVec 32} {k0_t115 : Fin (k0_t115_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t117_loop Gen.k0_t117_ok 0#32 (Gen.k0_t117_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) >>= kk) Q :=
  gLoop_wp 𝒱 bd E d _ _ arg32 arg30 arg33 Gen.k0_t117_ok 0#32 _ k0_chk1233.dec k0_chk1234.dec k0_chk1235.dec k0_chk1236.dec k0_chk1237.dec k0_chk1238.dec k0_chk1239.dec k0_chk1240.dec k0_chk1241.dec k0_chk1242.dec k0_chk1243.dec k0_chk1244.dec k0_chk1245.dec k0_chk1246.dec k0_chk1247.dec k0_chk1248.dec 0#32
    (fun k acc => congrFun (congrFun (t117_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v345 c1_i32_212 k0_t115) k) acc) kk qi qr fI fR fO hI

end Cert.Kernel.Gather
-- ==== Proof.BodyGatherBits.T122.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t122` (field 20, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t122_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v361 : BitVec 32) (c1_i32_222 : BitVec 32) (k0_t121 : Fin (k0_t121_loop i).trips) :
    Gen.k0_t122_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121 = fun k acc => gTrip arg31 arg30 arg33 k k0_chk1281.dec k0_chk1282.dec k0_chk1283.dec k0_chk1284.dec k0_chk1285.dec k0_chk1286.dec k0_chk1287.dec k0_chk1288.dec k0_chk1289.dec k0_chk1290.dec k0_chk1291.dec k0_chk1292.dec k0_chk1293.dec k0_chk1294.dec k0_chk1295.dec k0_chk1296.dec 0#32 := rfl

/-- The gather loop `k0_t122` ahead of a continuation: the index and row buffers read (any share), every
    index word naming a row; the output buffer left reading the gather. -/
theorem loop_t122 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v361 : BitVec 32} {c1_i32_222 : BitVec 32} {k0_t121 : Fin (k0_t121_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t122_loop Gen.k0_t122_ok 0#32 (Gen.k0_t122_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) >>= kk) Q :=
  gLoop_wp 𝒱 bd E d _ _ arg31 arg30 arg33 Gen.k0_t122_ok 0#32 _ k0_chk1281.dec k0_chk1282.dec k0_chk1283.dec k0_chk1284.dec k0_chk1285.dec k0_chk1286.dec k0_chk1287.dec k0_chk1288.dec k0_chk1289.dec k0_chk1290.dec k0_chk1291.dec k0_chk1292.dec k0_chk1293.dec k0_chk1294.dec k0_chk1295.dec k0_chk1296.dec 0#32
    (fun k acc => congrFun (congrFun (t122_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) k) acc) kk qi qr fI fR fO hI

end Cert.Kernel.Gather
-- ==== Proof.BodyGatherBits.T123.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t123` (field 20, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t123_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v361 : BitVec 32) (c1_i32_222 : BitVec 32) (k0_t121 : Fin (k0_t121_loop i).trips) :
    Gen.k0_t123_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121 = fun k acc => gTrip arg32 arg30 arg33 k k0_chk1297.dec k0_chk1298.dec k0_chk1299.dec k0_chk1300.dec k0_chk1301.dec k0_chk1302.dec k0_chk1303.dec k0_chk1304.dec k0_chk1305.dec k0_chk1306.dec k0_chk1307.dec k0_chk1308.dec k0_chk1309.dec k0_chk1310.dec k0_chk1311.dec k0_chk1312.dec 0#32 := rfl

/-- The gather loop `k0_t123` ahead of a continuation: the index and row buffers read (any share), every
    index word naming a row; the output buffer left reading the gather. -/
theorem loop_t123 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v361 : BitVec 32} {c1_i32_222 : BitVec 32} {k0_t121 : Fin (k0_t121_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t123_loop Gen.k0_t123_ok 0#32 (Gen.k0_t123_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) >>= kk) Q :=
  gLoop_wp 𝒱 bd E d _ _ arg32 arg30 arg33 Gen.k0_t123_ok 0#32 _ k0_chk1297.dec k0_chk1298.dec k0_chk1299.dec k0_chk1300.dec k0_chk1301.dec k0_chk1302.dec k0_chk1303.dec k0_chk1304.dec k0_chk1305.dec k0_chk1306.dec k0_chk1307.dec k0_chk1308.dec k0_chk1309.dec k0_chk1310.dec k0_chk1311.dec k0_chk1312.dec 0#32
    (fun k acc => congrFun (congrFun (t123_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v361 c1_i32_222 k0_t121) k) acc) kk qi qr fI fR fO hI

end Cert.Kernel.Gather
-- ==== Proof.BodyGatherBits.T128.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t128` (field 21, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t128_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v377 : BitVec 32) (c1_i32_232 : BitVec 32) (k0_t127 : Fin (k0_t127_loop i).trips) :
    Gen.k0_t128_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127 = fun k acc => gTrip arg31 arg30 arg33 k k0_chk1345.dec k0_chk1346.dec k0_chk1347.dec k0_chk1348.dec k0_chk1349.dec k0_chk1350.dec k0_chk1351.dec k0_chk1352.dec k0_chk1353.dec k0_chk1354.dec k0_chk1355.dec k0_chk1356.dec k0_chk1357.dec k0_chk1358.dec k0_chk1359.dec k0_chk1360.dec 0#32 := rfl

/-- The gather loop `k0_t128` ahead of a continuation: the index and row buffers read (any share), every
    index word naming a row; the output buffer left reading the gather. -/
theorem loop_t128 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v377 : BitVec 32} {c1_i32_232 : BitVec 32} {k0_t127 : Fin (k0_t127_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t128_loop Gen.k0_t128_ok 0#32 (Gen.k0_t128_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) >>= kk) Q :=
  gLoop_wp 𝒱 bd E d _ _ arg31 arg30 arg33 Gen.k0_t128_ok 0#32 _ k0_chk1345.dec k0_chk1346.dec k0_chk1347.dec k0_chk1348.dec k0_chk1349.dec k0_chk1350.dec k0_chk1351.dec k0_chk1352.dec k0_chk1353.dec k0_chk1354.dec k0_chk1355.dec k0_chk1356.dec k0_chk1357.dec k0_chk1358.dec k0_chk1359.dec k0_chk1360.dec 0#32
    (fun k acc => congrFun (congrFun (t128_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) k) acc) kk qi qr fI fR fO hI

end Cert.Kernel.Gather
-- ==== Proof.BodyGatherBits.T129.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t129` (field 21, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t129_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v377 : BitVec 32) (c1_i32_232 : BitVec 32) (k0_t127 : Fin (k0_t127_loop i).trips) :
    Gen.k0_t129_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127 = fun k acc => gTrip arg32 arg30 arg33 k k0_chk1361.dec k0_chk1362.dec k0_chk1363.dec k0_chk1364.dec k0_chk1365.dec k0_chk1366.dec k0_chk1367.dec k0_chk1368.dec k0_chk1369.dec k0_chk1370.dec k0_chk1371.dec k0_chk1372.dec k0_chk1373.dec k0_chk1374.dec k0_chk1375.dec k0_chk1376.dec 0#32 := rfl

/-- The gather loop `k0_t129` ahead of a continuation: the index and row buffers read (any share), every
    index word naming a row; the output buffer left reading the gather. -/
theorem loop_t129 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v377 : BitVec 32} {c1_i32_232 : BitVec 32} {k0_t127 : Fin (k0_t127_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t129_loop Gen.k0_t129_ok 0#32 (Gen.k0_t129_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) >>= kk) Q :=
  gLoop_wp 𝒱 bd E d _ _ arg32 arg30 arg33 Gen.k0_t129_ok 0#32 _ k0_chk1361.dec k0_chk1362.dec k0_chk1363.dec k0_chk1364.dec k0_chk1365.dec k0_chk1366.dec k0_chk1367.dec k0_chk1368.dec k0_chk1369.dec k0_chk1370.dec k0_chk1371.dec k0_chk1372.dec k0_chk1373.dec k0_chk1374.dec k0_chk1375.dec k0_chk1376.dec 0#32
    (fun k acc => congrFun (congrFun (t129_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v377 c1_i32_232 k0_t127) k) acc) kk qi qr fI fR fO hI

end Cert.Kernel.Gather
-- ==== Proof.BodyGatherBits.T134.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t134` (field 22, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t134_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v393 : BitVec 32) (c1_i32_242 : BitVec 32) (k0_t133 : Fin (k0_t133_loop i).trips) :
    Gen.k0_t134_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133 = fun k acc => gTrip arg31 arg30 arg33 k k0_chk1409.dec k0_chk1410.dec k0_chk1411.dec k0_chk1412.dec k0_chk1413.dec k0_chk1414.dec k0_chk1415.dec k0_chk1416.dec k0_chk1417.dec k0_chk1418.dec k0_chk1419.dec k0_chk1420.dec k0_chk1421.dec k0_chk1422.dec k0_chk1423.dec k0_chk1424.dec 0#32 := rfl

/-- The gather loop `k0_t134` ahead of a continuation: the index and row buffers read (any share), every
    index word naming a row; the output buffer left reading the gather. -/
theorem loop_t134 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v393 : BitVec 32} {c1_i32_242 : BitVec 32} {k0_t133 : Fin (k0_t133_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t134_loop Gen.k0_t134_ok 0#32 (Gen.k0_t134_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) >>= kk) Q :=
  gLoop_wp 𝒱 bd E d _ _ arg31 arg30 arg33 Gen.k0_t134_ok 0#32 _ k0_chk1409.dec k0_chk1410.dec k0_chk1411.dec k0_chk1412.dec k0_chk1413.dec k0_chk1414.dec k0_chk1415.dec k0_chk1416.dec k0_chk1417.dec k0_chk1418.dec k0_chk1419.dec k0_chk1420.dec k0_chk1421.dec k0_chk1422.dec k0_chk1423.dec k0_chk1424.dec 0#32
    (fun k acc => congrFun (congrFun (t134_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) k) acc) kk qi qr fI fR fO hI

end Cert.Kernel.Gather
-- ==== Proof.BodyGatherBits.T135.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t135` (field 22, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t135_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v393 : BitVec 32) (c1_i32_242 : BitVec 32) (k0_t133 : Fin (k0_t133_loop i).trips) :
    Gen.k0_t135_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133 = fun k acc => gTrip arg32 arg30 arg33 k k0_chk1425.dec k0_chk1426.dec k0_chk1427.dec k0_chk1428.dec k0_chk1429.dec k0_chk1430.dec k0_chk1431.dec k0_chk1432.dec k0_chk1433.dec k0_chk1434.dec k0_chk1435.dec k0_chk1436.dec k0_chk1437.dec k0_chk1438.dec k0_chk1439.dec k0_chk1440.dec 0#32 := rfl

/-- The gather loop `k0_t135` ahead of a continuation: the index and row buffers read (any share), every
    index word naming a row; the output buffer left reading the gather. -/
theorem loop_t135 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v393 : BitVec 32} {c1_i32_242 : BitVec 32} {k0_t133 : Fin (k0_t133_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t135_loop Gen.k0_t135_ok 0#32 (Gen.k0_t135_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) >>= kk) Q :=
  gLoop_wp 𝒱 bd E d _ _ arg32 arg30 arg33 Gen.k0_t135_ok 0#32 _ k0_chk1425.dec k0_chk1426.dec k0_chk1427.dec k0_chk1428.dec k0_chk1429.dec k0_chk1430.dec k0_chk1431.dec k0_chk1432.dec k0_chk1433.dec k0_chk1434.dec k0_chk1435.dec k0_chk1436.dec k0_chk1437.dec k0_chk1438.dec k0_chk1439.dec k0_chk1440.dec 0#32
    (fun k acc => congrFun (congrFun (t135_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v393 c1_i32_242 k0_t133) k) acc) kk qi qr fI fR fO hI

end Cert.Kernel.Gather
-- ==== Proof.BodyGatherBits.T140.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t140` (field 23, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t140_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v409 : BitVec 32) (c1_i32_252 : BitVec 32) (k0_t139 : Fin (k0_t139_loop i).trips) :
    Gen.k0_t140_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139 = fun k acc => gTrip arg31 arg30 arg33 k k0_chk1473.dec k0_chk1474.dec k0_chk1475.dec k0_chk1476.dec k0_chk1477.dec k0_chk1478.dec k0_chk1479.dec k0_chk1480.dec k0_chk1481.dec k0_chk1482.dec k0_chk1483.dec k0_chk1484.dec k0_chk1485.dec k0_chk1486.dec k0_chk1487.dec k0_chk1488.dec 0#32 := rfl

/-- The gather loop `k0_t140` ahead of a continuation: the index and row buffers read (any share), every
    index word naming a row; the output buffer left reading the gather. -/
theorem loop_t140 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v409 : BitVec 32} {c1_i32_252 : BitVec 32} {k0_t139 : Fin (k0_t139_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t140_loop Gen.k0_t140_ok 0#32 (Gen.k0_t140_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) >>= kk) Q :=
  gLoop_wp 𝒱 bd E d _ _ arg31 arg30 arg33 Gen.k0_t140_ok 0#32 _ k0_chk1473.dec k0_chk1474.dec k0_chk1475.dec k0_chk1476.dec k0_chk1477.dec k0_chk1478.dec k0_chk1479.dec k0_chk1480.dec k0_chk1481.dec k0_chk1482.dec k0_chk1483.dec k0_chk1484.dec k0_chk1485.dec k0_chk1486.dec k0_chk1487.dec k0_chk1488.dec 0#32
    (fun k acc => congrFun (congrFun (t140_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) k) acc) kk qi qr fI fR fO hI

end Cert.Kernel.Gather
-- ==== Proof.BodyGatherBits.T141.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t141` (field 23, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t141_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v409 : BitVec 32) (c1_i32_252 : BitVec 32) (k0_t139 : Fin (k0_t139_loop i).trips) :
    Gen.k0_t141_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139 = fun k acc => gTrip arg32 arg30 arg33 k k0_chk1489.dec k0_chk1490.dec k0_chk1491.dec k0_chk1492.dec k0_chk1493.dec k0_chk1494.dec k0_chk1495.dec k0_chk1496.dec k0_chk1497.dec k0_chk1498.dec k0_chk1499.dec k0_chk1500.dec k0_chk1501.dec k0_chk1502.dec k0_chk1503.dec k0_chk1504.dec 0#32 := rfl

/-- The gather loop `k0_t141` ahead of a continuation: the index and row buffers read (any share), every
    index word naming a row; the output buffer left reading the gather. -/
theorem loop_t141 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v409 : BitVec 32} {c1_i32_252 : BitVec 32} {k0_t139 : Fin (k0_t139_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t141_loop Gen.k0_t141_ok 0#32 (Gen.k0_t141_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) >>= kk) Q :=
  gLoop_wp 𝒱 bd E d _ _ arg32 arg30 arg33 Gen.k0_t141_ok 0#32 _ k0_chk1489.dec k0_chk1490.dec k0_chk1491.dec k0_chk1492.dec k0_chk1493.dec k0_chk1494.dec k0_chk1495.dec k0_chk1496.dec k0_chk1497.dec k0_chk1498.dec k0_chk1499.dec k0_chk1500.dec k0_chk1501.dec k0_chk1502.dec k0_chk1503.dec k0_chk1504.dec 0#32
    (fun k acc => congrFun (congrFun (t141_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v409 c1_i32_252 k0_t139) k) acc) kk qi qr fI fR fO hI

end Cert.Kernel.Gather
-- ==== Proof.BodyGatherBits.T146.lean ====
import proofs.«204037_g66941360275737_cont_sun_c4_657_24_alg».proof.Proof.Gen.Kernel.Skeleton.P02
import proofs.«204037_g66941360275737_cont_sun_c4_657_24_alg».proof.Proof.BodyGatherBits

/-!
# The gather loop `k0_t146` (field 24, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t146_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v425 : BitVec 32) (c1_i32_262 : BitVec 32) (k0_t145 : Fin (k0_t145_loop i).trips) :
    Gen.k0_t146_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145 = fun k acc => gTrip arg31 arg30 arg33 k k0_chk1537.dec k0_chk1538.dec k0_chk1539.dec k0_chk1540.dec k0_chk1541.dec k0_chk1542.dec k0_chk1543.dec k0_chk1544.dec k0_chk1545.dec k0_chk1546.dec k0_chk1547.dec k0_chk1548.dec k0_chk1549.dec k0_chk1550.dec k0_chk1551.dec k0_chk1552.dec 0#32 := rfl

/-- The gather loop `k0_t146` ahead of a continuation: the index and row buffers read (any share), every
    index word naming a row; the output buffer left reading the gather. -/
theorem loop_t146 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v425 : BitVec 32} {c1_i32_262 : BitVec 32} {k0_t145 : Fin (k0_t145_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t146_loop Gen.k0_t146_ok 0#32 (Gen.k0_t146_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) >>= kk) Q :=
  gLoop_wp 𝒱 bd E d _ _ arg31 arg30 arg33 Gen.k0_t146_ok 0#32 _ k0_chk1537.dec k0_chk1538.dec k0_chk1539.dec k0_chk1540.dec k0_chk1541.dec k0_chk1542.dec k0_chk1543.dec k0_chk1544.dec k0_chk1545.dec k0_chk1546.dec k0_chk1547.dec k0_chk1548.dec k0_chk1549.dec k0_chk1550.dec k0_chk1551.dec k0_chk1552.dec 0#32
    (fun k acc => congrFun (congrFun (t146_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) k) acc) kk qi qr fI fR fO hI

end Cert.Kernel.Gather
-- ==== Proof.BodyGatherBits.T147.lean ====
import proofs.«204037_g66941360275737_cont_sun_c4_657_24_alg».proof.Proof.Gen.Kernel.Skeleton
import proofs.«204037_g66941360275737_cont_sun_c4_657_24_alg».proof.Proof.BodyGatherBits

/-!
# The gather loop `k0_t147` (field 24, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t147_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v425 : BitVec 32) (c1_i32_262 : BitVec 32) (k0_t145 : Fin (k0_t145_loop i).trips) :
    Gen.k0_t147_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145 = fun k acc => gTrip arg32 arg30 arg33 k k0_chk1553.dec k0_chk1554.dec k0_chk1555.dec k0_chk1556.dec k0_chk1557.dec k0_chk1558.dec k0_chk1559.dec k0_chk1560.dec k0_chk1561.dec k0_chk1562.dec k0_chk1563.dec k0_chk1564.dec k0_chk1565.dec k0_chk1566.dec k0_chk1567.dec k0_chk1568.dec 0#32 := rfl

/-- The gather loop `k0_t147` ahead of a continuation: the index and row buffers read (any share), every
    index word naming a row; the output buffer left reading the gather. -/
theorem loop_t147 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v425 : BitVec 32} {c1_i32_262 : BitVec 32} {k0_t145 : Fin (k0_t145_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t147_loop Gen.k0_t147_ok 0#32 (Gen.k0_t147_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) >>= kk) Q :=
  gLoop_wp 𝒱 bd E d _ _ arg32 arg30 arg33 Gen.k0_t147_ok 0#32 _ k0_chk1553.dec k0_chk1554.dec k0_chk1555.dec k0_chk1556.dec k0_chk1557.dec k0_chk1558.dec k0_chk1559.dec k0_chk1560.dec k0_chk1561.dec k0_chk1562.dec k0_chk1563.dec k0_chk1564.dec k0_chk1565.dec k0_chk1566.dec k0_chk1567.dec k0_chk1568.dec 0#32
    (fun k acc => congrFun (congrFun (t147_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v425 c1_i32_262 k0_t145) k) acc) kk qi qr fI fR fO hI

end Cert.Kernel.Gather
-- ==== Proof.BodyGatherBits.T152.lean ====
import proofs.«204037_g66941360275737_cont_sun_c4_657_24_alg».proof.Proof.Gen.Kernel.Skeleton
import proofs.«204037_g66941360275737_cont_sun_c4_657_24_alg».proof.Proof.BodyGatherBits

/-!
# The gather loop `k0_t152` (field 25, first half of the batch)

Its trip region is the generic trip at the row buffer, the first index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t152_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v441 : BitVec 32) (c1_i32_272 : BitVec 32) (k0_t151 : Fin (k0_t151_loop i).trips) :
    Gen.k0_t152_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151 = fun k acc => gTrip arg31 arg30 arg33 k k0_chk1601.dec k0_chk1602.dec k0_chk1603.dec k0_chk1604.dec k0_chk1605.dec k0_chk1606.dec k0_chk1607.dec k0_chk1608.dec k0_chk1609.dec k0_chk1610.dec k0_chk1611.dec k0_chk1612.dec k0_chk1613.dec k0_chk1614.dec k0_chk1615.dec k0_chk1616.dec 0#32 := rfl

/-- The gather loop `k0_t152` ahead of a continuation: the index and row buffers read (any share), every
    index word naming a row; the output buffer left reading the gather. -/
theorem loop_t152 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v441 : BitVec 32} {c1_i32_272 : BitVec 32} {k0_t151 : Fin (k0_t151_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg31.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg31.view.read (Elt F) fI y).toNat < 100000) :
    iprop((arg31.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg31.view.read (Elt F) fI)⌝
            -∗ (arg31.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t152_loop Gen.k0_t152_ok 0#32 (Gen.k0_t152_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) >>= kk) Q :=
  gLoop_wp 𝒱 bd E d _ _ arg31 arg30 arg33 Gen.k0_t152_ok 0#32 _ k0_chk1601.dec k0_chk1602.dec k0_chk1603.dec k0_chk1604.dec k0_chk1605.dec k0_chk1606.dec k0_chk1607.dec k0_chk1608.dec k0_chk1609.dec k0_chk1610.dec k0_chk1611.dec k0_chk1612.dec k0_chk1613.dec k0_chk1614.dec k0_chk1615.dec k0_chk1616.dec 0#32
    (fun k acc => congrFun (congrFun (t152_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) k) acc) kk qi qr fI fR fO hI

end Cert.Kernel.Gather
-- ==== Proof.BodyGatherBits.T153.lean ====
import proofs.«204037_g66941360275737_cont_sun_c4_657_24_alg».proof.Proof.Gen.Kernel.Skeleton
import proofs.«204037_g66941360275737_cont_sun_c4_657_24_alg».proof.Proof.BodyGatherBits

/-!
# The gather loop `k0_t153` (field 25, second half of the batch)

Its trip region is the generic trip at the row buffer, the second index buffer and the output buffer; the
generic loop rule then gives: the output buffer ends reading `y ↦ row (index y)` at every `y`.
-/

noncomputable section

namespace Cert.Kernel.Gather

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F]

set_option maxRecDepth 65536 in
set_option maxHeartbeats 4000000 in
/-- The loop's trip region is the generic trip (the same operations at the same offsets). -/
theorem t153_body_eq (i : grid0.Coords) (arg2 : Memref sig .scVector .hbm S26x16384 .i32) (harg2 : arg2.IsWhole) (arg3 : Memref sig .scVector .hbm S36x100000 .f32) (harg3 : arg3.IsWhole) (arg4 : Memref sig .scVector .hbm S36x100000 .f32) (harg4 : arg4.IsWhole) (arg5 : Memref sig .scVector .hbm S36x100000 .f32) (harg5 : arg5.IsWhole) (arg6 : Memref sig .scVector .hbm S36x100000 .f32) (harg6 : arg6.IsWhole) (arg7 : Memref sig .scVector .hbm S36x100000 .f32) (harg7 : arg7.IsWhole) (arg8 : Memref sig .scVector .hbm S36x100000 .f32) (harg8 : arg8.IsWhole) (arg9 : Memref sig .scVector .hbm S36x100000 .f32) (harg9 : arg9.IsWhole) (arg10 : Memref sig .scVector .hbm S36x100000 .f32) (harg10 : arg10.IsWhole) (arg11 : Memref sig .scVector .hbm S36x100000 .f32) (harg11 : arg11.IsWhole) (arg12 : Memref sig .scVector .hbm S36x100000 .f32) (harg12 : arg12.IsWhole) (arg13 : Memref sig .scVector .hbm S36x100000 .f32) (harg13 : arg13.IsWhole) (arg14 : Memref sig .scVector .hbm S36x100000 .f32) (harg14 : arg14.IsWhole) (arg15 : Memref sig .scVector .hbm S36x100000 .f32) (harg15 : arg15.IsWhole) (arg16 : Memref sig .scVector .hbm S36x100000 .f32) (harg16 : arg16.IsWhole) (arg17 : Memref sig .scVector .hbm S36x100000 .f32) (harg17 : arg17.IsWhole) (arg18 : Memref sig .scVector .hbm S36x100000 .f32) (harg18 : arg18.IsWhole) (arg19 : Memref sig .scVector .hbm S36x100000 .f32) (harg19 : arg19.IsWhole) (arg20 : Memref sig .scVector .hbm S36x100000 .f32) (harg20 : arg20.IsWhole) (arg21 : Memref sig .scVector .hbm S36x100000 .f32) (harg21 : arg21.IsWhole) (arg22 : Memref sig .scVector .hbm S36x100000 .f32) (harg22 : arg22.IsWhole) (arg23 : Memref sig .scVector .hbm S36x100000 .f32) (harg23 : arg23.IsWhole) (arg24 : Memref sig .scVector .hbm S36x100000 .f32) (harg24 : arg24.IsWhole) (arg25 : Memref sig .scVector .hbm S36x100000 .f32) (harg25 : arg25.IsWhole) (arg26 : Memref sig .scVector .hbm S36x100000 .f32) (harg26 : arg26.IsWhole) (arg27 : Memref sig .scVector .hbm S36x100000 .f32) (harg27 : arg27.IsWhole) (arg28 : Memref sig .scVector .hbm S36x100000 .f32) (harg28 : arg28.IsWhole) (arg29 : Memref sig .scVector .hbm S936x16384 .f32) (harg29 : arg29.IsWhole) (arg30 : Memref sig .scVector .vmem S100000 .f32) (harg30 : arg30.IsWhole) (arg31 : Memref sig .scVector .vmem S8192 .i32) (harg31 : arg31.IsWhole) (arg32 : Memref sig .scVector .vmem S8192 .i32) (harg32 : arg32.IsWhole) (arg33 : Memref sig .scVector .vmem S8192 .f32) (harg33 : arg33.IsWhole) (v455_r0 : DmaSems sig S_) (v455_r1 : DmaSems sig S_) (v461_r2 : DmaSems sig S_) (v461_r3 : DmaSems sig S_) (v461_r4 : DmaSems sig S_) (v461_r5 : DmaSems sig S_) (v461_r6 : DmaSems sig S_) (v461_r7 : DmaSems sig S_) (v455_r8 : DmaSems sig S_) (v455_r9 : DmaSems sig S_) (v461_r10 : DmaSems sig S_) (v461_r11 : DmaSems sig S_) (v461_r12 : DmaSems sig S_) (v461_r13 : DmaSems sig S_) (v461_r14 : DmaSems sig S_) (v461_r15 : DmaSems sig S_) (v455_r16 : DmaSems sig S_) (v455_r17 : DmaSems sig S_) (v461_r18 : DmaSems sig S_) (v461_r19 : DmaSems sig S_) (v461_r20 : DmaSems sig S_) (v461_r21 : DmaSems sig S_) (v461_r22 : DmaSems sig S_) (v461_r23 : DmaSems sig S_) (v455_r24 : DmaSems sig S_) (v455_r25 : DmaSems sig S_) (v461_r26 : DmaSems sig S_) (v461_r27 : DmaSems sig S_) (v461_r28 : DmaSems sig S_) (v461_r29 : DmaSems sig S_) (v461_r30 : DmaSems sig S_) (v461_r31 : DmaSems sig S_) (v455_r32 : DmaSems sig S_) (v455_r33 : DmaSems sig S_) (v461_r34 : DmaSems sig S_) (v461_r35 : DmaSems sig S_) (v461_r36 : DmaSems sig S_) (v461_r37 : DmaSems sig S_) (v461_r38 : DmaSems sig S_) (v461_r39 : DmaSems sig S_) (v455_r40 : DmaSems sig S_) (v455_r41 : DmaSems sig S_) (v461_r42 : DmaSems sig S_) (v461_r43 : DmaSems sig S_) (v461_r44 : DmaSems sig S_) (v461_r45 : DmaSems sig S_) (v461_r46 : DmaSems sig S_) (v461_r47 : DmaSems sig S_) (v455_r48 : DmaSems sig S_) (v455_r49 : DmaSems sig S_) (v461_r50 : DmaSems sig S_) (v461_r51 : DmaSems sig S_) (v461_r52 : DmaSems sig S_) (v461_r53 : DmaSems sig S_) (v461_r54 : DmaSems sig S_) (v461_r55 : DmaSems sig S_) (v455_r56 : DmaSems sig S_) (v455_r57 : DmaSems sig S_) (v461_r58 : DmaSems sig S_) (v461_r59 : DmaSems sig S_) (v461_r60 : DmaSems sig S_) (v461_r61 : DmaSems sig S_) (v461_r62 : DmaSems sig S_) (v461_r63 : DmaSems sig S_) (v455_r64 : DmaSems sig S_) (v455_r65 : DmaSems sig S_) (v461_r66 : DmaSems sig S_) (v461_r67 : DmaSems sig S_) (v461_r68 : DmaSems sig S_) (v461_r69 : DmaSems sig S_) (v461_r70 : DmaSems sig S_) (v461_r71 : DmaSems sig S_) (v455_r72 : DmaSems sig S_) (v455_r73 : DmaSems sig S_) (v461_r74 : DmaSems sig S_) (v461_r75 : DmaSems sig S_) (v461_r76 : DmaSems sig S_) (v461_r77 : DmaSems sig S_) (v461_r78 : DmaSems sig S_) (v461_r79 : DmaSems sig S_) (v455_r80 : DmaSems sig S_) (v455_r81 : DmaSems sig S_) (v461_r82 : DmaSems sig S_) (v461_r83 : DmaSems sig S_) (v461_r84 : DmaSems sig S_) (v461_r85 : DmaSems sig S_) (v461_r86 : DmaSems sig S_) (v461_r87 : DmaSems sig S_) (v455_r88 : DmaSems sig S_) (v455_r89 : DmaSems sig S_) (v461_r90 : DmaSems sig S_) (v461_r91 : DmaSems sig S_) (v461_r92 : DmaSems sig S_) (v461_r93 : DmaSems sig S_) (v461_r94 : DmaSems sig S_) (v461_r95 : DmaSems sig S_) (v455_r96 : DmaSems sig S_) (v455_r97 : DmaSems sig S_) (v461_r98 : DmaSems sig S_) (v461_r99 : DmaSems sig S_) (v461_r100 : DmaSems sig S_) (v461_r101 : DmaSems sig S_) (v461_r102 : DmaSems sig S_) (v461_r103 : DmaSems sig S_) (v455_r104 : DmaSems sig S_) (v455_r105 : DmaSems sig S_) (v461_r106 : DmaSems sig S_) (v461_r107 : DmaSems sig S_) (v461_r108 : DmaSems sig S_) (v461_r109 : DmaSems sig S_) (v461_r110 : DmaSems sig S_) (v461_r111 : DmaSems sig S_) (v455_r112 : DmaSems sig S_) (v455_r113 : DmaSems sig S_) (v461_r114 : DmaSems sig S_) (v461_r115 : DmaSems sig S_) (v461_r116 : DmaSems sig S_) (v461_r117 : DmaSems sig S_) (v461_r118 : DmaSems sig S_) (v461_r119 : DmaSems sig S_) (v455_r120 : DmaSems sig S_) (v455_r121 : DmaSems sig S_) (v461_r122 : DmaSems sig S_) (v461_r123 : DmaSems sig S_) (v461_r124 : DmaSems sig S_) (v461_r125 : DmaSems sig S_) (v461_r126 : DmaSems sig S_) (v461_r127 : DmaSems sig S_) (v455_r128 : DmaSems sig S_) (v455_r129 : DmaSems sig S_) (v461_r130 : DmaSems sig S_) (v461_r131 : DmaSems sig S_) (v461_r132 : DmaSems sig S_) (v461_r133 : DmaSems sig S_) (v461_r134 : DmaSems sig S_) (v461_r135 : DmaSems sig S_) (v455_r136 : DmaSems sig S_) (v455_r137 : DmaSems sig S_) (v461_r138 : DmaSems sig S_) (v461_r139 : DmaSems sig S_) (v461_r140 : DmaSems sig S_) (v461_r141 : DmaSems sig S_) (v461_r142 : DmaSems sig S_) (v461_r143 : DmaSems sig S_) (v455_r144 : DmaSems sig S_) (v455_r145 : DmaSems sig S_) (v461_r146 : DmaSems sig S_) (v461_r147 : DmaSems sig S_) (v461_r148 : DmaSems sig S_) (v461_r149 : DmaSems sig S_) (v461_r150 : DmaSems sig S_) (v461_r151 : DmaSems sig S_) (v455_r152 : DmaSems sig S_) (v455_r153 : DmaSems sig S_) (v461_r154 : DmaSems sig S_) (v461_r155 : DmaSems sig S_) (v461_r156 : DmaSems sig S_) (v461_r157 : DmaSems sig S_) (v461_r158 : DmaSems sig S_) (v461_r159 : DmaSems sig S_) (v455_r160 : DmaSems sig S_) (v455_r161 : DmaSems sig S_) (v461_r162 : DmaSems sig S_) (v461_r163 : DmaSems sig S_) (v461_r164 : DmaSems sig S_) (v461_r165 : DmaSems sig S_) (v461_r166 : DmaSems sig S_) (v461_r167 : DmaSems sig S_) (v455_r168 : DmaSems sig S_) (v455_r169 : DmaSems sig S_) (v461_r170 : DmaSems sig S_) (v461_r171 : DmaSems sig S_) (v461_r172 : DmaSems sig S_) (v461_r173 : DmaSems sig S_) (v461_r174 : DmaSems sig S_) (v461_r175 : DmaSems sig S_) (v455_r176 : DmaSems sig S_) (v455_r177 : DmaSems sig S_) (v461_r178 : DmaSems sig S_) (v461_r179 : DmaSems sig S_) (v461_r180 : DmaSems sig S_) (v461_r181 : DmaSems sig S_) (v461_r182 : DmaSems sig S_) (v461_r183 : DmaSems sig S_) (v455_r184 : DmaSems sig S_) (v455_r185 : DmaSems sig S_) (v461_r186 : DmaSems sig S_) (v461_r187 : DmaSems sig S_) (v461_r188 : DmaSems sig S_) (v461_r189 : DmaSems sig S_) (v461_r190 : DmaSems sig S_) (v461_r191 : DmaSems sig S_) (v455_r192 : DmaSems sig S_) (v455_r193 : DmaSems sig S_) (v461_r194 : DmaSems sig S_) (v461_r195 : DmaSems sig S_) (v461_r196 : DmaSems sig S_) (v461_r197 : DmaSems sig S_) (v461_r198 : DmaSems sig S_) (v461_r199 : DmaSems sig S_) (v455_r200 : DmaSems sig S_) (v455_r201 : DmaSems sig S_) (v461_r202 : DmaSems sig S_) (v461_r203 : DmaSems sig S_) (v461_r204 : DmaSems sig S_) (v461_r205 : DmaSems sig S_) (v461_r206 : DmaSems sig S_) (v461_r207 : DmaSems sig S_) (v441 : BitVec 32) (c1_i32_272 : BitVec 32) (k0_t151 : Fin (k0_t151_loop i).trips) :
    Gen.k0_t153_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151 = fun k acc => gTrip arg32 arg30 arg33 k k0_chk1617.dec k0_chk1618.dec k0_chk1619.dec k0_chk1620.dec k0_chk1621.dec k0_chk1622.dec k0_chk1623.dec k0_chk1624.dec k0_chk1625.dec k0_chk1626.dec k0_chk1627.dec k0_chk1628.dec k0_chk1629.dec k0_chk1630.dec k0_chk1631.dec k0_chk1632.dec 0#32 := rfl

/-- The gather loop `k0_t153` ahead of a continuation: the index and row buffers read (any share), every
    index word naming a row; the output buffer left reading the gather. -/
theorem loop_t153 {Ix : Type} [DecidableEq Ix] {Name : Type} [DecidableEq Name] {U : Type} [URA U] {Lvl : Type} [Preorder Lvl]
    {defs : Defs nD τ sig (Elt F) Λ₀} (𝒱 : Variants) (bd : Option 𝒱.V) (E : Set Name) (d : Dev nD)
    {i : grid0.Coords} {arg2 : Memref sig .scVector .hbm S26x16384 .i32} {harg2 : arg2.IsWhole} {arg3 : Memref sig .scVector .hbm S36x100000 .f32} {harg3 : arg3.IsWhole} {arg4 : Memref sig .scVector .hbm S36x100000 .f32} {harg4 : arg4.IsWhole} {arg5 : Memref sig .scVector .hbm S36x100000 .f32} {harg5 : arg5.IsWhole} {arg6 : Memref sig .scVector .hbm S36x100000 .f32} {harg6 : arg6.IsWhole} {arg7 : Memref sig .scVector .hbm S36x100000 .f32} {harg7 : arg7.IsWhole} {arg8 : Memref sig .scVector .hbm S36x100000 .f32} {harg8 : arg8.IsWhole} {arg9 : Memref sig .scVector .hbm S36x100000 .f32} {harg9 : arg9.IsWhole} {arg10 : Memref sig .scVector .hbm S36x100000 .f32} {harg10 : arg10.IsWhole} {arg11 : Memref sig .scVector .hbm S36x100000 .f32} {harg11 : arg11.IsWhole} {arg12 : Memref sig .scVector .hbm S36x100000 .f32} {harg12 : arg12.IsWhole} {arg13 : Memref sig .scVector .hbm S36x100000 .f32} {harg13 : arg13.IsWhole} {arg14 : Memref sig .scVector .hbm S36x100000 .f32} {harg14 : arg14.IsWhole} {arg15 : Memref sig .scVector .hbm S36x100000 .f32} {harg15 : arg15.IsWhole} {arg16 : Memref sig .scVector .hbm S36x100000 .f32} {harg16 : arg16.IsWhole} {arg17 : Memref sig .scVector .hbm S36x100000 .f32} {harg17 : arg17.IsWhole} {arg18 : Memref sig .scVector .hbm S36x100000 .f32} {harg18 : arg18.IsWhole} {arg19 : Memref sig .scVector .hbm S36x100000 .f32} {harg19 : arg19.IsWhole} {arg20 : Memref sig .scVector .hbm S36x100000 .f32} {harg20 : arg20.IsWhole} {arg21 : Memref sig .scVector .hbm S36x100000 .f32} {harg21 : arg21.IsWhole} {arg22 : Memref sig .scVector .hbm S36x100000 .f32} {harg22 : arg22.IsWhole} {arg23 : Memref sig .scVector .hbm S36x100000 .f32} {harg23 : arg23.IsWhole} {arg24 : Memref sig .scVector .hbm S36x100000 .f32} {harg24 : arg24.IsWhole} {arg25 : Memref sig .scVector .hbm S36x100000 .f32} {harg25 : arg25.IsWhole} {arg26 : Memref sig .scVector .hbm S36x100000 .f32} {harg26 : arg26.IsWhole} {arg27 : Memref sig .scVector .hbm S36x100000 .f32} {harg27 : arg27.IsWhole} {arg28 : Memref sig .scVector .hbm S36x100000 .f32} {harg28 : arg28.IsWhole} {arg29 : Memref sig .scVector .hbm S936x16384 .f32} {harg29 : arg29.IsWhole} {arg30 : Memref sig .scVector .vmem S100000 .f32} {harg30 : arg30.IsWhole} {arg31 : Memref sig .scVector .vmem S8192 .i32} {harg31 : arg31.IsWhole} {arg32 : Memref sig .scVector .vmem S8192 .i32} {harg32 : arg32.IsWhole} {arg33 : Memref sig .scVector .vmem S8192 .f32} {harg33 : arg33.IsWhole} {v455_r0 : DmaSems sig S_} {v455_r1 : DmaSems sig S_} {v461_r2 : DmaSems sig S_} {v461_r3 : DmaSems sig S_} {v461_r4 : DmaSems sig S_} {v461_r5 : DmaSems sig S_} {v461_r6 : DmaSems sig S_} {v461_r7 : DmaSems sig S_} {v455_r8 : DmaSems sig S_} {v455_r9 : DmaSems sig S_} {v461_r10 : DmaSems sig S_} {v461_r11 : DmaSems sig S_} {v461_r12 : DmaSems sig S_} {v461_r13 : DmaSems sig S_} {v461_r14 : DmaSems sig S_} {v461_r15 : DmaSems sig S_} {v455_r16 : DmaSems sig S_} {v455_r17 : DmaSems sig S_} {v461_r18 : DmaSems sig S_} {v461_r19 : DmaSems sig S_} {v461_r20 : DmaSems sig S_} {v461_r21 : DmaSems sig S_} {v461_r22 : DmaSems sig S_} {v461_r23 : DmaSems sig S_} {v455_r24 : DmaSems sig S_} {v455_r25 : DmaSems sig S_} {v461_r26 : DmaSems sig S_} {v461_r27 : DmaSems sig S_} {v461_r28 : DmaSems sig S_} {v461_r29 : DmaSems sig S_} {v461_r30 : DmaSems sig S_} {v461_r31 : DmaSems sig S_} {v455_r32 : DmaSems sig S_} {v455_r33 : DmaSems sig S_} {v461_r34 : DmaSems sig S_} {v461_r35 : DmaSems sig S_} {v461_r36 : DmaSems sig S_} {v461_r37 : DmaSems sig S_} {v461_r38 : DmaSems sig S_} {v461_r39 : DmaSems sig S_} {v455_r40 : DmaSems sig S_} {v455_r41 : DmaSems sig S_} {v461_r42 : DmaSems sig S_} {v461_r43 : DmaSems sig S_} {v461_r44 : DmaSems sig S_} {v461_r45 : DmaSems sig S_} {v461_r46 : DmaSems sig S_} {v461_r47 : DmaSems sig S_} {v455_r48 : DmaSems sig S_} {v455_r49 : DmaSems sig S_} {v461_r50 : DmaSems sig S_} {v461_r51 : DmaSems sig S_} {v461_r52 : DmaSems sig S_} {v461_r53 : DmaSems sig S_} {v461_r54 : DmaSems sig S_} {v461_r55 : DmaSems sig S_} {v455_r56 : DmaSems sig S_} {v455_r57 : DmaSems sig S_} {v461_r58 : DmaSems sig S_} {v461_r59 : DmaSems sig S_} {v461_r60 : DmaSems sig S_} {v461_r61 : DmaSems sig S_} {v461_r62 : DmaSems sig S_} {v461_r63 : DmaSems sig S_} {v455_r64 : DmaSems sig S_} {v455_r65 : DmaSems sig S_} {v461_r66 : DmaSems sig S_} {v461_r67 : DmaSems sig S_} {v461_r68 : DmaSems sig S_} {v461_r69 : DmaSems sig S_} {v461_r70 : DmaSems sig S_} {v461_r71 : DmaSems sig S_} {v455_r72 : DmaSems sig S_} {v455_r73 : DmaSems sig S_} {v461_r74 : DmaSems sig S_} {v461_r75 : DmaSems sig S_} {v461_r76 : DmaSems sig S_} {v461_r77 : DmaSems sig S_} {v461_r78 : DmaSems sig S_} {v461_r79 : DmaSems sig S_} {v455_r80 : DmaSems sig S_} {v455_r81 : DmaSems sig S_} {v461_r82 : DmaSems sig S_} {v461_r83 : DmaSems sig S_} {v461_r84 : DmaSems sig S_} {v461_r85 : DmaSems sig S_} {v461_r86 : DmaSems sig S_} {v461_r87 : DmaSems sig S_} {v455_r88 : DmaSems sig S_} {v455_r89 : DmaSems sig S_} {v461_r90 : DmaSems sig S_} {v461_r91 : DmaSems sig S_} {v461_r92 : DmaSems sig S_} {v461_r93 : DmaSems sig S_} {v461_r94 : DmaSems sig S_} {v461_r95 : DmaSems sig S_} {v455_r96 : DmaSems sig S_} {v455_r97 : DmaSems sig S_} {v461_r98 : DmaSems sig S_} {v461_r99 : DmaSems sig S_} {v461_r100 : DmaSems sig S_} {v461_r101 : DmaSems sig S_} {v461_r102 : DmaSems sig S_} {v461_r103 : DmaSems sig S_} {v455_r104 : DmaSems sig S_} {v455_r105 : DmaSems sig S_} {v461_r106 : DmaSems sig S_} {v461_r107 : DmaSems sig S_} {v461_r108 : DmaSems sig S_} {v461_r109 : DmaSems sig S_} {v461_r110 : DmaSems sig S_} {v461_r111 : DmaSems sig S_} {v455_r112 : DmaSems sig S_} {v455_r113 : DmaSems sig S_} {v461_r114 : DmaSems sig S_} {v461_r115 : DmaSems sig S_} {v461_r116 : DmaSems sig S_} {v461_r117 : DmaSems sig S_} {v461_r118 : DmaSems sig S_} {v461_r119 : DmaSems sig S_} {v455_r120 : DmaSems sig S_} {v455_r121 : DmaSems sig S_} {v461_r122 : DmaSems sig S_} {v461_r123 : DmaSems sig S_} {v461_r124 : DmaSems sig S_} {v461_r125 : DmaSems sig S_} {v461_r126 : DmaSems sig S_} {v461_r127 : DmaSems sig S_} {v455_r128 : DmaSems sig S_} {v455_r129 : DmaSems sig S_} {v461_r130 : DmaSems sig S_} {v461_r131 : DmaSems sig S_} {v461_r132 : DmaSems sig S_} {v461_r133 : DmaSems sig S_} {v461_r134 : DmaSems sig S_} {v461_r135 : DmaSems sig S_} {v455_r136 : DmaSems sig S_} {v455_r137 : DmaSems sig S_} {v461_r138 : DmaSems sig S_} {v461_r139 : DmaSems sig S_} {v461_r140 : DmaSems sig S_} {v461_r141 : DmaSems sig S_} {v461_r142 : DmaSems sig S_} {v461_r143 : DmaSems sig S_} {v455_r144 : DmaSems sig S_} {v455_r145 : DmaSems sig S_} {v461_r146 : DmaSems sig S_} {v461_r147 : DmaSems sig S_} {v461_r148 : DmaSems sig S_} {v461_r149 : DmaSems sig S_} {v461_r150 : DmaSems sig S_} {v461_r151 : DmaSems sig S_} {v455_r152 : DmaSems sig S_} {v455_r153 : DmaSems sig S_} {v461_r154 : DmaSems sig S_} {v461_r155 : DmaSems sig S_} {v461_r156 : DmaSems sig S_} {v461_r157 : DmaSems sig S_} {v461_r158 : DmaSems sig S_} {v461_r159 : DmaSems sig S_} {v455_r160 : DmaSems sig S_} {v455_r161 : DmaSems sig S_} {v461_r162 : DmaSems sig S_} {v461_r163 : DmaSems sig S_} {v461_r164 : DmaSems sig S_} {v461_r165 : DmaSems sig S_} {v461_r166 : DmaSems sig S_} {v461_r167 : DmaSems sig S_} {v455_r168 : DmaSems sig S_} {v455_r169 : DmaSems sig S_} {v461_r170 : DmaSems sig S_} {v461_r171 : DmaSems sig S_} {v461_r172 : DmaSems sig S_} {v461_r173 : DmaSems sig S_} {v461_r174 : DmaSems sig S_} {v461_r175 : DmaSems sig S_} {v455_r176 : DmaSems sig S_} {v455_r177 : DmaSems sig S_} {v461_r178 : DmaSems sig S_} {v461_r179 : DmaSems sig S_} {v461_r180 : DmaSems sig S_} {v461_r181 : DmaSems sig S_} {v461_r182 : DmaSems sig S_} {v461_r183 : DmaSems sig S_} {v455_r184 : DmaSems sig S_} {v455_r185 : DmaSems sig S_} {v461_r186 : DmaSems sig S_} {v461_r187 : DmaSems sig S_} {v461_r188 : DmaSems sig S_} {v461_r189 : DmaSems sig S_} {v461_r190 : DmaSems sig S_} {v461_r191 : DmaSems sig S_} {v455_r192 : DmaSems sig S_} {v455_r193 : DmaSems sig S_} {v461_r194 : DmaSems sig S_} {v461_r195 : DmaSems sig S_} {v461_r196 : DmaSems sig S_} {v461_r197 : DmaSems sig S_} {v461_r198 : DmaSems sig S_} {v461_r199 : DmaSems sig S_} {v455_r200 : DmaSems sig S_} {v455_r201 : DmaSems sig S_} {v461_r202 : DmaSems sig S_} {v461_r203 : DmaSems sig S_} {v461_r204 : DmaSems sig S_} {v461_r205 : DmaSems sig S_} {v461_r206 : DmaSems sig S_} {v461_r207 : DmaSems sig S_} {v441 : BitVec 32} {c1_i32_272 : BitVec 32} {k0_t151 : Fin (k0_t151_loop i).trips}
    {α : Type} {kk : BitVec 32 → Prog (TpuEff nD τ sig (Elt F) Λ₀ (.scVector ((i 0).castLE Gen.hcore0) ((i 1).castLE Gen.hsub0))) α}
    {Q : α → sProp (MT nD τ sig Ix (Elt F) Name U Lvl)} {qi qr : PosShare TreeShare}
    {fI : Buf (Elt F) (arg32.view.loc (SparseCore.V (nD := nD) (τ := τ) d ((i 0).castLE Gen.hcore0) ((i 1).castLE Gen.hsub0)))}
    {fR : Buf (Elt F) (arg30.view.loc (SparseCore.V (nD := nD) (τ := τ) d ((i 0).castLE Gen.hcore0) ((i 1).castLE Gen.hsub0)))}
    {fO : Buf (Elt F) (arg33.view.loc (SparseCore.V (nD := nD) (τ := τ) d ((i 0).castLE Gen.hcore0) ((i 1).castLE Gen.hsub0)))}
    (hI : ∀ y, (arg32.view.read (Elt F) fI y).toNat < 100000) :
    iprop((arg32.view.loc (SparseCore.V (nD := nD) (τ := τ) d ((i 0).castLE Gen.hcore0) ((i 1).castLE Gen.hsub0)) ↦{qi} fI)
        ∗ (arg30.view.loc (SparseCore.V (nD := nD) (τ := τ) d ((i 0).castLE Gen.hcore0) ((i 1).castLE Gen.hsub0)) ↦{qr} fR)
        ∗ (arg33.view.loc (SparseCore.V (nD := nD) (τ := τ) d ((i 0).castLE Gen.hcore0) ((i 1).castLE Gen.hsub0)) ↦{fullShare} fO)
        ∗ (∀ (acc : BitVec 32) (fO' : Buf (Elt F) (arg33.view.loc (SparseCore.V (nD := nD) (τ := τ) d ((i 0).castLE Gen.hcore0) ((i 1).castLE Gen.hsub0)))),
            ⌜arg33.view.read (Elt F) fO' = gat ((arg30.access (.whole S100000)).read (Elt F) fR) (arg32.view.read (Elt F) fI)⌝
            -∗ (arg32.view.loc (SparseCore.V (nD := nD) (τ := τ) d ((i 0).castLE Gen.hcore0) ((i 1).castLE Gen.hsub0)) ↦{qi} fI)
            -∗ (arg30.view.loc (SparseCore.V (nD := nD) (τ := τ) d ((i 0).castLE Gen.hcore0) ((i 1).castLE Gen.hsub0)) ↦{qr} fR)
            -∗ (arg33.view.loc (SparseCore.V (nD := nD) (τ := τ) d ((i 0).castLE Gen.hcore0) ((i 1).castLE Gen.hsub0)) ↦{fullShare} fO')
            -∗ wp frame (wpE defs 𝒱 (SparseCore.V (nD := nD) (τ := τ) d ((i 0).castLE Gen.hcore0) ((i 1).castLE Gen.hsub0)) bd) E (kk acc) Q))
      ⊢ wp frame (wpE defs 𝒱 (SparseCore.V (nD := nD) (τ := τ) d ((i 0).castLE Gen.hcore0) ((i 1).castLE Gen.hsub0)) bd) E
          (Scf.Loop.for k0_t153_loop Gen.k0_t153_ok 0#32 (Gen.k0_t153_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) >>= kk) Q :=
  gLoop_wp 𝒱 bd E d _ _ arg32 arg30 arg33 Gen.k0_t153_ok 0#32 _ k0_chk1617.dec k0_chk1618.dec k0_chk1619.dec k0_chk1620.dec k0_chk1621.dec k0_chk1622.dec k0_chk1623.dec k0_chk1624.dec k0_chk1625.dec k0_chk1626.dec k0_chk1627.dec k0_chk1628.dec k0_chk1629.dec k0_chk1630.dec k0_chk1631.dec k0_chk1632.dec 0#32
    (fun k acc => congrFun (congrFun (t153_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v455_r0 v455_r1 v461_r2 v461_r3 v461_r4 v461_r5 v461_r6 v461_r7 v455_r8 v455_r9 v461_r10 v461_r11 v461_r12 v461_r13 v461_r14 v461_r15 v455_r16 v455_r17 v461_r18 v461_r19 v461_r20 v461_r21 v461_r22 v461_r23 v455_r24 v455_r25 v461_r26 v461_r27 v461_r28 v461_r29 v461_r30 v461_r31 v455_r32 v455_r33 v461_r34 v461_r35 v461_r36 v461_r37 v461_r38 v461_r39 v455_r40 v455_r41 v461_r42 v461_r43 v461_r44 v461_r45 v461_r46 v461_r47 v455_r48 v455_r49 v461_r50 v461_r51 v461_r52 v461_r53 v461_r54 v461_r55 v455_r56 v455_r57 v461_r58 v461_r59 v461_r60 v461_r61 v461_r62 v461_r63 v455_r64 v455_r65 v461_r66 v461_r67 v461_r68 v461_r69 v461_r70 v461_r71 v455_r72 v455_r73 v461_r74 v461_r75 v461_r76 v461_r77 v461_r78 v461_r79 v455_r80 v455_r81 v461_r82 v461_r83 v461_r84 v461_r85 v461_r86 v461_r87 v455_r88 v455_r89 v461_r90 v461_r91 v461_r92 v461_r93 v461_r94 v461_r95 v455_r96 v455_r97 v461_r98 v461_r99 v461_r100 v461_r101 v461_r102 v461_r103 v455_r104 v455_r105 v461_r106 v461_r107 v461_r108 v461_r109 v461_r110 v461_r111 v455_r112 v455_r113 v461_r114 v461_r115 v461_r116 v461_r117 v461_r118 v461_r119 v455_r120 v455_r121 v461_r122 v461_r123 v461_r124 v461_r125 v461_r126 v461_r127 v455_r128 v455_r129 v461_r130 v461_r131 v461_r132 v461_r133 v461_r134 v461_r135 v455_r136 v455_r137 v461_r138 v461_r139 v461_r140 v461_r141 v461_r142 v461_r143 v455_r144 v455_r145 v461_r146 v461_r147 v461_r148 v461_r149 v461_r150 v461_r151 v455_r152 v455_r153 v461_r154 v461_r155 v461_r156 v461_r157 v461_r158 v461_r159 v455_r160 v455_r161 v461_r162 v461_r163 v461_r164 v461_r165 v461_r166 v461_r167 v455_r168 v455_r169 v461_r170 v461_r171 v461_r172 v461_r173 v461_r174 v461_r175 v455_r176 v455_r177 v461_r178 v461_r179 v461_r180 v461_r181 v461_r182 v461_r183 v455_r184 v455_r185 v461_r186 v461_r187 v461_r188 v461_r189 v461_r190 v461_r191 v455_r192 v455_r193 v461_r194 v461_r195 v461_r196 v461_r197 v461_r198 v461_r199 v455_r200 v455_r201 v461_r202 v461_r203 v461_r204 v461_r205 v461_r206 v461_r207 v441 c1_i32_272 k0_t151) k) acc) kk qi qr fI fR fO hI

end Cert.Kernel.Gather
-- ==== Proof.BodyRowInstBits.lean ====
import proofs.«204037_g66941360275737_cont_sun_c4_657_24_alg».proof.Proof.BodyRowValBits
import proofs.«204037_g66941360275737_cont_sun_c4_657_24_alg».proof.Proof.Gen.Kernel.Skeleton
import proofs.«204037_g66941360275737_cont_sun_c4_657_24_alg».proof.Proof.BodyGatherBits.T2
import proofs.«204037_g66941360275737_cont_sun_c4_657_24_alg».proof.Proof.BodyGatherBits.T3
import proofs.«204037_g66941360275737_cont_sun_c4_657_24_alg».proof.Proof.BodyGatherBits.T8
import proofs.«204037_g66941360275737_cont_sun_c4_657_24_alg».proof.Proof.BodyGatherBits.T9
import proofs.«204037_g66941360275737_cont_sun_c4_657_24_alg».proof.Proof.BodyGatherBits.T14
import proofs.«204037_g66941360275737_cont_sun_c4_657_24_alg».proof.Proof.BodyGatherBits.T15
import proofs.«204037_g66941360275737_cont_sun_c4_657_24_alg».proof.Proof.BodyGatherBits.T20
import proofs.«204037_g66941360275737_cont_sun_c4_657_24_alg».proof.Proof.BodyGatherBits.T21
import proofs.«204037_g66941360275737_cont_sun_c4_657_24_alg».proof.Proof.BodyGatherBits.T26
import proofs.«204037_g66941360275737_cont_sun_c4_657_24_alg».proof.Proof.BodyGatherBits.T27
import proofs.«204037_g66941360275737_cont_sun_c4_657_24_alg».proof.Proof.BodyGatherBits.T32
import proofs.«204037_g66941360275737_cont_sun_c4_657_24_alg».proof.Proof.BodyGatherBits.T33
import proofs.«204037_g66941360275737_cont_sun_c4_657_24_alg».proof.Proof.BodyGatherBits.T38
import proofs.«204037_g66941360275737_cont_sun_c4_657_24_alg».proof.Proof.BodyGatherBits.T39
import proofs.«204037_g66941360275737_cont_sun_c4_657_24_alg».proof.Proof.BodyGatherBits.T44
import proofs.«204037_g66941360275737_cont_sun_c4_657_24_alg».proof.Proof.BodyGatherBits.T45
import proofs.«204037_g66941360275737_cont_sun_c4_657_24_alg».proof.Proof.BodyGatherBits.T50
import proofs.«204037_g66941360275737_cont_sun_c4_657_24_alg».proof.Proof.BodyGatherBits.T51
import proofs.«204037_g66941360275737_cont_sun_c4_657_24_alg».proof.Proof.BodyGatherBits.T56
import proofs.«204037_g66941360275737_cont_sun_c4_657_24_alg».proof.Proof.BodyGatherBits.T57
import proofs.«204037_g66941360275737_cont_sun_c4_657_24_alg».proof.Proof.BodyGatherBits.T62
import proofs.«204037_g66941360275737_cont_sun_c4_657_24_alg».proof.Proof.BodyGatherBits.T63
import proofs.«204037_g66941360275737_cont_sun_c4_657_24_alg».proof.Proof.BodyGatherBits.T68
import proofs.«204037_g66941360275737_cont_sun_c4_657_24_alg».proof.Proof.BodyGatherBits.T69
import proofs.«204037_g66941360275737_cont_sun_c4_657_24_alg».proof.Proof.BodyGatherBits.T74
import proofs.«204037_g66941360275737_cont_sun_c4_657_24_alg».proof.Proof.BodyGatherBits.T75
import proofs.«204037_g66941360275737_cont_sun_c4_657_24_alg».proof.Proof.BodyGatherBits.T80
import proofs.«204037_g66941360275737_cont_sun_c4_657_24_alg».proof.Proof.BodyGatherBits.T81
import proofs.«204037_g66941360275737_cont_sun_c4_657_24_alg».proof.Proof.BodyGatherBits.T86
import proofs.«204037_g66941360275737_cont_sun_c4_657_24_alg».proof.Proof.BodyGatherBits.T87
import proofs.«204037_g66941360275737_cont_sun_c4_657_24_alg».proof.Proof.BodyGatherBits.T92
import proofs.«204037_g66941360275737_cont_sun_c4_657_24_alg».proof.Proof.BodyGatherBits.T93
import proofs.«204037_g66941360275737_cont_sun_c4_657_24_alg».proof.Proof.BodyGatherBits.T98
import proofs.«204037_g66941360275737_cont_sun_c4_657_24_alg».proof.Proof.BodyGatherBits.T99
import proofs.«204037_g66941360275737_cont_sun_c4_657_24_alg».proof.Proof.BodyGatherBits.T104
import proofs.«204037_g66941360275737_cont_sun_c4_657_24_alg».proof.Proof.BodyGatherBits.T105
import proofs.«204037_g66941360275737_cont_sun_c4_657_24_alg».proof.Proof.BodyGatherBits.T110
import proofs.«204037_g66941360275737_cont_sun_c4_657_24_alg».proof.Proof.BodyGatherBits.T111
import proofs.«204037_g66941360275737_cont_sun_c4_657_24_alg».proof.Proof.BodyGatherBits.T116
import proofs.«204037_g66941360275737_cont_sun_c4_657_24_alg».proof.Proof.BodyGatherBits.T117
import proofs.«204037_g66941360275737_cont_sun_c4_657_24_alg».proof.Proof.BodyGatherBits.T122
import proofs.«204037_g66941360275737_cont_sun_c4_657_24_alg».proof.Proof.BodyGatherBits.T123
import proofs.«204037_g66941360275737_cont_sun_c4_657_24_alg».proof.Proof.BodyGatherBits.T128
import proofs.«204037_g66941360275737_cont_sun_c4_657_24_alg».proof.Proof.BodyGatherBits.T129
import proofs.«204037_g66941360275737_cont_sun_c4_657_24_alg».proof.Proof.BodyGatherBits.T134
import proofs.«204037_g66941360275737_cont_sun_c4_657_24_alg».proof.Proof.BodyGatherBits.T135
import proofs.«204037_g66941360275737_cont_sun_c4_657_24_alg».proof.Proof.BodyGatherBits.T140
import proofs.«204037_g66941360275737_cont_sun_c4_657_24_alg».proof.Proof.BodyGatherBits.T141
import proofs.«204037_g66941360275737_cont_sun_c4_657_24_alg».proof.Proof.BodyGatherBits.T146
import proofs.«204037_g66941360275737_cont_sun_c4_657_24_alg».proof.Proof.BodyGatherBits.T147
import proofs.«204037_g66941360275737_cont_sun_c4_657_24_alg».proof.Proof.BodyGatherBits.T152
import proofs.«204037_g66941360275737_cont_sun_c4_657_24_alg».proof.Proof.BodyGatherBits.T153

noncomputable section

namespace Cert.Proof.BodyRowBits

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.UnitArith (dlo dhi dlo_le_dhi dhi_le mem_range_iff')
open Cert.Kernel.UnitArithK

variable {F : FTy → Type} [FloatOps F]

local notation "𝕄" => MT nD τ sig (HIx 1) (Elt F) ℕ UU ℕ

/-- The two index scratches, as a tile addresses them. -/
abbrev sIa : Memref sig .scVector .vmem S8192 .i32 := Memref.whole cc0_scratch1
abbrev sIb : Memref sig .scVector .vmem S8192 .i32 := Memref.whole cc0_scratch2

set_option maxRecDepth 65536 in
set_option maxHeartbeats 4000000 in
/-- Field 0's loop over its rows, at the printed trip region. -/
theorem dinst_0 (L : grid0.Coords) (d : Dev nD) (defs : Defs nD τ sig (Elt F) Λ₀) (v19 : BitVec 32) (v38 : BitVec 32) (c0_i32_13 : BitVec 32) (v41 : BitVec 32)
    (O : CellTallies nD τ sig (HIx 1)) (W0 : Waits sig (HIx 1)) (q : PosShare TreeShare) (fx : S26x16384.Idx → BitVec 32)
    (ft : Buf (Elt F) ((Memref.whole main_v1_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t1_loop L).trips →
      (∀ y : S8192.Idx, sIa.view.read (Elt F) fa y = fx (ix2 ⟨0, by decide⟩ ⟨(y 0).val, Nat.lt_of_lt_of_le (y 0).isLt (by decide)⟩))
      ∧ (∀ y : S8192.Idx, sIb.view.read (Elt F) fb y = fx (ix2 ⟨0, by decide⟩ ⟨(y 0).val + 8192, Nat.add_lt_add_right (y 0).isLt 8192⟩)))
    (hG : ∀ x : S936x16384.Idx, 0 + dlo (wid L) 0 ≤ (x 0).val → (x 0).val < 0 + dlo (wid L) 0 + (k0_t1_loop L).trips →
      G x = ft (tIx (x 0).val (fx (ix2 ⟨0, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v1_scv : Memref sig .scVector .hbm S36x100000 .f32) cc0_scoped2 cc0_scoped3 cc0_scoped4 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (0 + dlo (wid L) 0) 0 0#32
        ∗ (∀ acc, rowsInv (F := F) ((L 0).castLE hcore0) ((L 1).castLE hsub0) d (Memref.whole main_v1_scv : Memref sig .scVector .hbm S36x100000 .f32) cc0_scoped2 cc0_scoped3 cc0_scoped4 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (0 + dlo (wid L) 0) (k0_t1_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t1_loop L) (k0_t1_ok L) 0#32 (k0_t1_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c0_i32_13 v41) >>= kk) Q := by
  have htr := t1_trips L
  have h1 := dlo_le_dhi (wid L) 0
  have h2 := dhi_le (wid L) 0
  refine dloop_0 (F := F) L d defs cc0_scoped2 cc0_scoped3 cc0_scoped4 (k0_t1_ok L) 0#32 _
    (k0_off1_inb L) (k0_off19_inb L) (k0_off37_inb L)
    (fun k => Scf.Loop.for k0_t2_loop k0_t2_ok 0#32 (k0_t2_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v41 1#32 k))
    (fun k => Scf.Loop.for k0_t3_loop k0_t3_ok 0#32 (k0_t3_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v41 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t1_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t2 Variants.none none Set.univ d (fun y => by rw [(hidx hpos).1 y]; exact hfx _)) kk' Q' fR fO
  · have hpos : 0 < (k0_t1_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t3 Variants.none none Set.univ d (fun y => by rw [(hidx hpos).2 y]; exact hfx _)) kk' Q' fR fO
  · have := (mem_range_iff' (wid L) 0 (dlo (wid L) 0) (by omega)).mp ⟨le_refl _, by omega⟩
    omega
  · have := (mem_range_iff' (wid L) 0 (dhi (wid L) 0 - 1) (by omega)).mp ⟨by omega, by omega⟩
    omega

set_option maxRecDepth 65536 in
set_option maxHeartbeats 4000000 in
/-- Field 1's loop over its rows, at the printed trip region. -/
theorem dinst_1 (L : grid0.Coords) (d : Dev nD) (defs : Defs nD τ sig (Elt F) Λ₀) (v19 : BitVec 32) (v38 : BitVec 32) (c0_i32_13 : BitVec 32) (v57 : BitVec 32)
    (O : CellTallies nD τ sig (HIx 1)) (W0 : Waits sig (HIx 1)) (q : PosShare TreeShare) (fx : S26x16384.Idx → BitVec 32)
    (ft : Buf (Elt F) ((Memref.whole main_v2_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t7_loop L).trips →
      (∀ y : S8192.Idx, sIa.view.read (Elt F) fa y = fx (ix2 ⟨1, by decide⟩ ⟨(y 0).val, Nat.lt_of_lt_of_le (y 0).isLt (by decide)⟩))
      ∧ (∀ y : S8192.Idx, sIb.view.read (Elt F) fb y = fx (ix2 ⟨1, by decide⟩ ⟨(y 0).val + 8192, Nat.add_lt_add_right (y 0).isLt 8192⟩)))
    (hG : ∀ x : S936x16384.Idx, 36 + dlo (wid L) 1 ≤ (x 0).val → (x 0).val < 36 + dlo (wid L) 1 + (k0_t7_loop L).trips →
      G x = ft (tIx (x 0).val (fx (ix2 ⟨1, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v2_scv : Memref sig .scVector .hbm S36x100000 .f32) cc0_scoped10 cc0_scoped11 cc0_scoped12 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (36 + dlo (wid L) 1) 0 0#32
        ∗ (∀ acc, rowsInv (F := F) ((L 0).castLE hcore0) ((L 1).castLE hsub0) d (Memref.whole main_v2_scv : Memref sig .scVector .hbm S36x100000 .f32) cc0_scoped10 cc0_scoped11 cc0_scoped12 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (36 + dlo (wid L) 1) (k0_t7_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t7_loop L) (k0_t7_ok L) 0#32 (k0_t7_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c0_i32_13 v57) >>= kk) Q := by
  have htr := t7_trips L
  have h1 := dlo_le_dhi (wid L) 1
  have h2 := dhi_le (wid L) 1
  refine dloop_1 (F := F) L d defs cc0_scoped10 cc0_scoped11 cc0_scoped12 (k0_t7_ok L) 0#32 _
    (k0_off75_inb L) (k0_off93_inb L) (k0_off111_inb L)
    (fun k => Scf.Loop.for k0_t8_loop k0_t8_ok 0#32 (k0_t8_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v57 1#32 k))
    (fun k => Scf.Loop.for k0_t9_loop k0_t9_ok 0#32 (k0_t9_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v57 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t7_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t8 Variants.none none Set.univ d (fun y => by rw [(hidx hpos).1 y]; exact hfx _)) kk' Q' fR fO
  · have hpos : 0 < (k0_t7_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t9 Variants.none none Set.univ d (fun y => by rw [(hidx hpos).2 y]; exact hfx _)) kk' Q' fR fO
  · have := (mem_range_iff' (wid L) 1 (dlo (wid L) 1) (by omega)).mp ⟨le_refl _, by omega⟩
    omega
  · have := (mem_range_iff' (wid L) 1 (dhi (wid L) 1 - 1) (by omega)).mp ⟨by omega, by omega⟩
    omega

set_option maxRecDepth 65536 in
set_option maxHeartbeats 4000000 in
/-- Field 2's loop over its rows, at the printed trip region. -/
theorem dinst_2 (L : grid0.Coords) (d : Dev nD) (defs : Defs nD τ sig (Elt F) Λ₀) (v19 : BitVec 32) (v38 : BitVec 32) (c36_i32_35 : BitVec 32) (v72 : BitVec 32) (v73 : BitVec 32)
    (O : CellTallies nD τ sig (HIx 1)) (W0 : Waits sig (HIx 1)) (q : PosShare TreeShare) (fx : S26x16384.Idx → BitVec 32)
    (ft : Buf (Elt F) ((Memref.whole main_v3_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t13_loop L).trips →
      (∀ y : S8192.Idx, sIa.view.read (Elt F) fa y = fx (ix2 ⟨2, by decide⟩ ⟨(y 0).val, Nat.lt_of_lt_of_le (y 0).isLt (by decide)⟩))
      ∧ (∀ y : S8192.Idx, sIb.view.read (Elt F) fb y = fx (ix2 ⟨2, by decide⟩ ⟨(y 0).val + 8192, Nat.add_lt_add_right (y 0).isLt 8192⟩)))
    (hG : ∀ x : S936x16384.Idx, 72 + dlo (wid L) 2 ≤ (x 0).val → (x 0).val < 72 + dlo (wid L) 2 + (k0_t13_loop L).trips →
      G x = ft (tIx (x 0).val (fx (ix2 ⟨2, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v3_scv : Memref sig .scVector .hbm S36x100000 .f32) cc0_scoped18 cc0_scoped19 cc0_scoped20 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (72 + dlo (wid L) 2) 0 0#32
        ∗ (∀ acc, rowsInv (F := F) ((L 0).castLE hcore0) ((L 1).castLE hsub0) d (Memref.whole main_v3_scv : Memref sig .scVector .hbm S36x100000 .f32) cc0_scoped18 cc0_scoped19 cc0_scoped20 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (72 + dlo (wid L) 2) (k0_t13_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t13_loop L) (k0_t13_ok L) 0#32 (k0_t13_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_35 v72 v73) >>= kk) Q := by
  have htr := t13_trips L
  have h1 := dlo_le_dhi (wid L) 2
  have h2 := dhi_le (wid L) 2
  refine dloop_2 (F := F) L d defs cc0_scoped18 cc0_scoped19 cc0_scoped20 (k0_t13_ok L) 0#32 _
    (k0_off149_inb L) (k0_off167_inb L) (k0_off185_inb L)
    (fun k => Scf.Loop.for k0_t14_loop k0_t14_ok 0#32 (k0_t14_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v73 1#32 k))
    (fun k => Scf.Loop.for k0_t15_loop k0_t15_ok 0#32 (k0_t15_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v73 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t13_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t14 Variants.none none Set.univ d (fun y => by rw [(hidx hpos).1 y]; exact hfx _)) kk' Q' fR fO
  · have hpos : 0 < (k0_t13_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t15 Variants.none none Set.univ d (fun y => by rw [(hidx hpos).2 y]; exact hfx _)) kk' Q' fR fO
  · have := (mem_range_iff' (wid L) 2 (dlo (wid L) 2) (by omega)).mp ⟨le_refl _, by omega⟩
    omega
  · have := (mem_range_iff' (wid L) 2 (dhi (wid L) 2 - 1) (by omega)).mp ⟨by omega, by omega⟩
    omega

set_option maxRecDepth 65536 in
set_option maxHeartbeats 4000000 in
/-- Field 3's loop over its rows, at the printed trip region. -/
theorem dinst_3 (L : grid0.Coords) (d : Dev nD) (defs : Defs nD τ sig (Elt F) Λ₀) (v19 : BitVec 32) (v38 : BitVec 32) (c36_i32_35 : BitVec 32) (v72 : BitVec 32) (v89 : BitVec 32)
    (O : CellTallies nD τ sig (HIx 1)) (W0 : Waits sig (HIx 1)) (q : PosShare TreeShare) (fx : S26x16384.Idx → BitVec 32)
    (ft : Buf (Elt F) ((Memref.whole main_v4_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t19_loop L).trips →
      (∀ y : S8192.Idx, sIa.view.read (Elt F) fa y = fx (ix2 ⟨3, by decide⟩ ⟨(y 0).val, Nat.lt_of_lt_of_le (y 0).isLt (by decide)⟩))
      ∧ (∀ y : S8192.Idx, sIb.view.read (Elt F) fb y = fx (ix2 ⟨3, by decide⟩ ⟨(y 0).val + 8192, Nat.add_lt_add_right (y 0).isLt 8192⟩)))
    (hG : ∀ x : S936x16384.Idx, 108 + dlo (wid L) 3 ≤ (x 0).val → (x 0).val < 108 + dlo (wid L) 3 + (k0_t19_loop L).trips →
      G x = ft (tIx (x 0).val (fx (ix2 ⟨3, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v4_scv : Memref sig .scVector .hbm S36x100000 .f32) cc0_scoped26 cc0_scoped27 cc0_scoped28 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (108 + dlo (wid L) 3) 0 0#32
        ∗ (∀ acc, rowsInv (F := F) ((L 0).castLE hcore0) ((L 1).castLE hsub0) d (Memref.whole main_v4_scv : Memref sig .scVector .hbm S36x100000 .f32) cc0_scoped26 cc0_scoped27 cc0_scoped28 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (108 + dlo (wid L) 3) (k0_t19_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t19_loop L) (k0_t19_ok L) 0#32 (k0_t19_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_35 v72 v89) >>= kk) Q := by
  have htr := t19_trips L
  have h1 := dlo_le_dhi (wid L) 3
  have h2 := dhi_le (wid L) 3
  refine dloop_3 (F := F) L d defs cc0_scoped26 cc0_scoped27 cc0_scoped28 (k0_t19_ok L) 0#32 _
    (k0_off223_inb L) (k0_off241_inb L) (k0_off259_inb L)
    (fun k => Scf.Loop.for k0_t20_loop k0_t20_ok 0#32 (k0_t20_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v89 1#32 k))
    (fun k => Scf.Loop.for k0_t21_loop k0_t21_ok 0#32 (k0_t21_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v89 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t19_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t20 Variants.none none Set.univ d (fun y => by rw [(hidx hpos).1 y]; exact hfx _)) kk' Q' fR fO
  · have hpos : 0 < (k0_t19_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t21 Variants.none none Set.univ d (fun y => by rw [(hidx hpos).2 y]; exact hfx _)) kk' Q' fR fO
  · have := (mem_range_iff' (wid L) 3 (dlo (wid L) 3) (by omega)).mp ⟨le_refl _, by omega⟩
    omega
  · have := (mem_range_iff' (wid L) 3 (dhi (wid L) 3 - 1) (by omega)).mp ⟨by omega, by omega⟩
    omega

set_option maxRecDepth 65536 in
set_option maxHeartbeats 4000000 in
/-- Field 4's loop over its rows, at the printed trip region. -/
theorem dinst_4 (L : grid0.Coords) (d : Dev nD) (defs : Defs nD τ sig (Elt F) Λ₀) (v19 : BitVec 32) (v38 : BitVec 32) (v105 : BitVec 32) (v106 : BitVec 32) (c0_i32_57 : BitVec 32)
    (O : CellTallies nD τ sig (HIx 1)) (W0 : Waits sig (HIx 1)) (q : PosShare TreeShare) (fx : S26x16384.Idx → BitVec 32)
    (ft : Buf (Elt F) ((Memref.whole main_v5_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t25_loop L).trips →
      (∀ y : S8192.Idx, sIa.view.read (Elt F) fa y = fx (ix2 ⟨4, by decide⟩ ⟨(y 0).val, Nat.lt_of_lt_of_le (y 0).isLt (by decide)⟩))
      ∧ (∀ y : S8192.Idx, sIb.view.read (Elt F) fb y = fx (ix2 ⟨4, by decide⟩ ⟨(y 0).val + 8192, Nat.add_lt_add_right (y 0).isLt 8192⟩)))
    (hG : ∀ x : S936x16384.Idx, 144 + dlo (wid L) 4 ≤ (x 0).val → (x 0).val < 144 + dlo (wid L) 4 + (k0_t25_loop L).trips →
      G x = ft (tIx (x 0).val (fx (ix2 ⟨4, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v5_scv : Memref sig .scVector .hbm S36x100000 .f32) cc0_scoped34 cc0_scoped35 cc0_scoped36 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (144 + dlo (wid L) 4) 0 0#32
        ∗ (∀ acc, rowsInv (F := F) ((L 0).castLE hcore0) ((L 1).castLE hsub0) d (Memref.whole main_v5_scv : Memref sig .scVector .hbm S36x100000 .f32) cc0_scoped34 cc0_scoped35 cc0_scoped36 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (144 + dlo (wid L) 4) (k0_t25_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t25_loop L) (k0_t25_ok L) 0#32 (k0_t25_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v105 v106 c0_i32_57) >>= kk) Q := by
  have htr := t25_trips L
  have h1 := dlo_le_dhi (wid L) 4
  have h2 := dhi_le (wid L) 4
  refine dloop_4 (F := F) L d defs cc0_scoped34 cc0_scoped35 cc0_scoped36 (k0_t25_ok L) 0#32 _
    (k0_off297_inb L) (k0_off315_inb L) (k0_off333_inb L)
    (fun k => Scf.Loop.for k0_t26_loop k0_t26_ok 0#32 (k0_t26_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v105 1#32 k))
    (fun k => Scf.Loop.for k0_t27_loop k0_t27_ok 0#32 (k0_t27_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v105 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t25_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t26 Variants.none none Set.univ d (fun y => by rw [(hidx hpos).1 y]; exact hfx _)) kk' Q' fR fO
  · have hpos : 0 < (k0_t25_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t27 Variants.none none Set.univ d (fun y => by rw [(hidx hpos).2 y]; exact hfx _)) kk' Q' fR fO
  · have := (mem_range_iff' (wid L) 4 (dlo (wid L) 4) (by omega)).mp ⟨le_refl _, by omega⟩
    omega
  · have := (mem_range_iff' (wid L) 4 (dhi (wid L) 4 - 1) (by omega)).mp ⟨by omega, by omega⟩
    omega

set_option maxRecDepth 65536 in
set_option maxHeartbeats 4000000 in
/-- Field 5's loop over its rows, at the printed trip region. -/
theorem dinst_5 (L : grid0.Coords) (d : Dev nD) (defs : Defs nD τ sig (Elt F) Λ₀) (v19 : BitVec 32) (v38 : BitVec 32) (v105 : BitVec 32) (v106 : BitVec 32) (c0_i32_57 : BitVec 32) (v121 : BitVec 32)
    (O : CellTallies nD τ sig (HIx 1)) (W0 : Waits sig (HIx 1)) (q : PosShare TreeShare) (fx : S26x16384.Idx → BitVec 32)
    (ft : Buf (Elt F) ((Memref.whole main_v6_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t31_loop L).trips →
      (∀ y : S8192.Idx, sIa.view.read (Elt F) fa y = fx (ix2 ⟨5, by decide⟩ ⟨(y 0).val, Nat.lt_of_lt_of_le (y 0).isLt (by decide)⟩))
      ∧ (∀ y : S8192.Idx, sIb.view.read (Elt F) fb y = fx (ix2 ⟨5, by decide⟩ ⟨(y 0).val + 8192, Nat.add_lt_add_right (y 0).isLt 8192⟩)))
    (hG : ∀ x : S936x16384.Idx, 180 + dlo (wid L) 5 ≤ (x 0).val → (x 0).val < 180 + dlo (wid L) 5 + (k0_t31_loop L).trips →
      G x = ft (tIx (x 0).val (fx (ix2 ⟨5, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v6_scv : Memref sig .scVector .hbm S36x100000 .f32) cc0_scoped42 cc0_scoped43 cc0_scoped44 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (180 + dlo (wid L) 5) 0 0#32
        ∗ (∀ acc, rowsInv (F := F) ((L 0).castLE hcore0) ((L 1).castLE hsub0) d (Memref.whole main_v6_scv : Memref sig .scVector .hbm S36x100000 .f32) cc0_scoped42 cc0_scoped43 cc0_scoped44 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (180 + dlo (wid L) 5) (k0_t31_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t31_loop L) (k0_t31_ok L) 0#32 (k0_t31_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v105 v106 c0_i32_57 v121) >>= kk) Q := by
  have htr := t31_trips L
  have h1 := dlo_le_dhi (wid L) 5
  have h2 := dhi_le (wid L) 5
  refine dloop_5 (F := F) L d defs cc0_scoped42 cc0_scoped43 cc0_scoped44 (k0_t31_ok L) 0#32 _
    (k0_off371_inb L) (k0_off389_inb L) (k0_off407_inb L)
    (fun k => Scf.Loop.for k0_t32_loop k0_t32_ok 0#32 (k0_t32_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v121 1#32 k))
    (fun k => Scf.Loop.for k0_t33_loop k0_t33_ok 0#32 (k0_t33_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v121 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t31_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t32 Variants.none none Set.univ d (fun y => by rw [(hidx hpos).1 y]; exact hfx _)) kk' Q' fR fO
  · have hpos : 0 < (k0_t31_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t33 Variants.none none Set.univ d (fun y => by rw [(hidx hpos).2 y]; exact hfx _)) kk' Q' fR fO
  · have := (mem_range_iff' (wid L) 5 (dlo (wid L) 5) (by omega)).mp ⟨le_refl _, by omega⟩
    omega
  · have := (mem_range_iff' (wid L) 5 (dhi (wid L) 5 - 1) (by omega)).mp ⟨by omega, by omega⟩
    omega

set_option maxRecDepth 65536 in
set_option maxHeartbeats 4000000 in
/-- Field 6's loop over its rows, at the printed trip region. -/
theorem dinst_6 (L : grid0.Coords) (d : Dev nD) (defs : Defs nD τ sig (Elt F) Λ₀) (v19 : BitVec 32) (v38 : BitVec 32) (v137 : BitVec 32) (v140 : BitVec 32) (v141 : BitVec 1)
    (O : CellTallies nD τ sig (HIx 1)) (W0 : Waits sig (HIx 1)) (q : PosShare TreeShare) (fx : S26x16384.Idx → BitVec 32)
    (ft : Buf (Elt F) ((Memref.whole main_v7_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t37_loop L).trips →
      (∀ y : S8192.Idx, sIa.view.read (Elt F) fa y = fx (ix2 ⟨6, by decide⟩ ⟨(y 0).val, Nat.lt_of_lt_of_le (y 0).isLt (by decide)⟩))
      ∧ (∀ y : S8192.Idx, sIb.view.read (Elt F) fb y = fx (ix2 ⟨6, by decide⟩ ⟨(y 0).val + 8192, Nat.add_lt_add_right (y 0).isLt 8192⟩)))
    (hG : ∀ x : S936x16384.Idx, 216 + dlo (wid L) 6 ≤ (x 0).val → (x 0).val < 216 + dlo (wid L) 6 + (k0_t37_loop L).trips →
      G x = ft (tIx (x 0).val (fx (ix2 ⟨6, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v7_scv : Memref sig .scVector .hbm S36x100000 .f32) cc0_scoped50 cc0_scoped51 cc0_scoped52 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (216 + dlo (wid L) 6) 0 0#32
        ∗ (∀ acc, rowsInv (F := F) ((L 0).castLE hcore0) ((L 1).castLE hsub0) d (Memref.whole main_v7_scv : Memref sig .scVector .hbm S36x100000 .f32) cc0_scoped50 cc0_scoped51 cc0_scoped52 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (216 + dlo (wid L) 6) (k0_t37_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t37_loop L) (k0_t37_ok L) 0#32 (k0_t37_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v137 v140 v141) >>= kk) Q := by
  have htr := t37_trips L
  have h1 := dlo_le_dhi (wid L) 6
  have h2 := dhi_le (wid L) 6
  refine dloop_6 (F := F) L d defs cc0_scoped50 cc0_scoped51 cc0_scoped52 (k0_t37_ok L) 0#32 _
    (k0_off445_inb L) (k0_off463_inb L) (k0_off481_inb L)
    (fun k => Scf.Loop.for k0_t38_loop k0_t38_ok 0#32 (k0_t38_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v137 1#32 k))
    (fun k => Scf.Loop.for k0_t39_loop k0_t39_ok 0#32 (k0_t39_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v137 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t37_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t38 Variants.none none Set.univ d (fun y => by rw [(hidx hpos).1 y]; exact hfx _)) kk' Q' fR fO
  · have hpos : 0 < (k0_t37_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t39 Variants.none none Set.univ d (fun y => by rw [(hidx hpos).2 y]; exact hfx _)) kk' Q' fR fO
  · have := (mem_range_iff' (wid L) 6 (dlo (wid L) 6) (by omega)).mp ⟨le_refl _, by omega⟩
    omega
  · have := (mem_range_iff' (wid L) 6 (dhi (wid L) 6 - 1) (by omega)).mp ⟨by omega, by omega⟩
    omega

set_option maxRecDepth 65536 in
set_option maxHeartbeats 4000000 in
/-- Field 7's loop over its rows, at the printed trip region. -/
theorem dinst_7 (L : grid0.Coords) (d : Dev nD) (defs : Defs nD τ sig (Elt F) Λ₀) (v19 : BitVec 32) (v38 : BitVec 32) (v137 : BitVec 32) (v140 : BitVec 32) (v141 : BitVec 1) (v153 : BitVec 32)
    (O : CellTallies nD τ sig (HIx 1)) (W0 : Waits sig (HIx 1)) (q : PosShare TreeShare) (fx : S26x16384.Idx → BitVec 32)
    (ft : Buf (Elt F) ((Memref.whole main_v8_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t43_loop L).trips →
      (∀ y : S8192.Idx, sIa.view.read (Elt F) fa y = fx (ix2 ⟨7, by decide⟩ ⟨(y 0).val, Nat.lt_of_lt_of_le (y 0).isLt (by decide)⟩))
      ∧ (∀ y : S8192.Idx, sIb.view.read (Elt F) fb y = fx (ix2 ⟨7, by decide⟩ ⟨(y 0).val + 8192, Nat.add_lt_add_right (y 0).isLt 8192⟩)))
    (hG : ∀ x : S936x16384.Idx, 252 + dlo (wid L) 7 ≤ (x 0).val → (x 0).val < 252 + dlo (wid L) 7 + (k0_t43_loop L).trips →
      G x = ft (tIx (x 0).val (fx (ix2 ⟨7, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v8_scv : Memref sig .scVector .hbm S36x100000 .f32) cc0_scoped58 cc0_scoped59 cc0_scoped60 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (252 + dlo (wid L) 7) 0 0#32
        ∗ (∀ acc, rowsInv (F := F) ((L 0).castLE hcore0) ((L 1).castLE hsub0) d (Memref.whole main_v8_scv : Memref sig .scVector .hbm S36x100000 .f32) cc0_scoped58 cc0_scoped59 cc0_scoped60 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (252 + dlo (wid L) 7) (k0_t43_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t43_loop L) (k0_t43_ok L) 0#32 (k0_t43_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v137 v140 v141 v153) >>= kk) Q := by
  have htr := t43_trips L
  have h1 := dlo_le_dhi (wid L) 7
  have h2 := dhi_le (wid L) 7
  refine dloop_7 (F := F) L d defs cc0_scoped58 cc0_scoped59 cc0_scoped60 (k0_t43_ok L) 0#32 _
    (k0_off519_inb L) (k0_off537_inb L) (k0_off555_inb L)
    (fun k => Scf.Loop.for k0_t44_loop k0_t44_ok 0#32 (k0_t44_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v153 1#32 k))
    (fun k => Scf.Loop.for k0_t45_loop k0_t45_ok 0#32 (k0_t45_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v153 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t43_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t44 Variants.none none Set.univ d (fun y => by rw [(hidx hpos).1 y]; exact hfx _)) kk' Q' fR fO
  · have hpos : 0 < (k0_t43_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t45 Variants.none none Set.univ d (fun y => by rw [(hidx hpos).2 y]; exact hfx _)) kk' Q' fR fO
  · have := (mem_range_iff' (wid L) 7 (dlo (wid L) 7) (by omega)).mp ⟨le_refl _, by omega⟩
    omega
  · have := (mem_range_iff' (wid L) 7 (dhi (wid L) 7 - 1) (by omega)).mp ⟨by omega, by omega⟩
    omega

set_option maxRecDepth 65536 in
set_option maxHeartbeats 4000000 in
/-- Field 8's loop over its rows, at the printed trip region. -/
theorem dinst_8 (L : grid0.Coords) (d : Dev nD) (defs : Defs nD τ sig (Elt F) Λ₀) (v19 : BitVec 32) (v38 : BitVec 32) (v169 : BitVec 32) (v172 : BitVec 32)
    (O : CellTallies nD τ sig (HIx 1)) (W0 : Waits sig (HIx 1)) (q : PosShare TreeShare) (fx : S26x16384.Idx → BitVec 32)
    (ft : Buf (Elt F) ((Memref.whole main_v9_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t49_loop L).trips →
      (∀ y : S8192.Idx, sIa.view.read (Elt F) fa y = fx (ix2 ⟨8, by decide⟩ ⟨(y 0).val, Nat.lt_of_lt_of_le (y 0).isLt (by decide)⟩))
      ∧ (∀ y : S8192.Idx, sIb.view.read (Elt F) fb y = fx (ix2 ⟨8, by decide⟩ ⟨(y 0).val + 8192, Nat.add_lt_add_right (y 0).isLt 8192⟩)))
    (hG : ∀ x : S936x16384.Idx, 288 + dlo (wid L) 8 ≤ (x 0).val → (x 0).val < 288 + dlo (wid L) 8 + (k0_t49_loop L).trips →
      G x = ft (tIx (x 0).val (fx (ix2 ⟨8, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v9_scv : Memref sig .scVector .hbm S36x100000 .f32) cc0_scoped66 cc0_scoped67 cc0_scoped68 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (288 + dlo (wid L) 8) 0 0#32
        ∗ (∀ acc, rowsInv (F := F) ((L 0).castLE hcore0) ((L 1).castLE hsub0) d (Memref.whole main_v9_scv : Memref sig .scVector .hbm S36x100000 .f32) cc0_scoped66 cc0_scoped67 cc0_scoped68 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (288 + dlo (wid L) 8) (k0_t49_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t49_loop L) (k0_t49_ok L) 0#32 (k0_t49_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v169 v172) >>= kk) Q := by
  have htr := t49_trips L
  have h1 := dlo_le_dhi (wid L) 8
  have h2 := dhi_le (wid L) 8
  refine dloop_8 (F := F) L d defs cc0_scoped66 cc0_scoped67 cc0_scoped68 (k0_t49_ok L) 0#32 _
    (k0_off593_inb L) (k0_off611_inb L) (k0_off629_inb L)
    (fun k => Scf.Loop.for k0_t50_loop k0_t50_ok 0#32 (k0_t50_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v169 1#32 k))
    (fun k => Scf.Loop.for k0_t51_loop k0_t51_ok 0#32 (k0_t51_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v169 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t49_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t50 Variants.none none Set.univ d (fun y => by rw [(hidx hpos).1 y]; exact hfx _)) kk' Q' fR fO
  · have hpos : 0 < (k0_t49_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t51 Variants.none none Set.univ d (fun y => by rw [(hidx hpos).2 y]; exact hfx _)) kk' Q' fR fO
  · have := (mem_range_iff' (wid L) 8 (dlo (wid L) 8) (by omega)).mp ⟨le_refl _, by omega⟩
    omega
  · have := (mem_range_iff' (wid L) 8 (dhi (wid L) 8 - 1) (by omega)).mp ⟨by omega, by omega⟩
    omega

set_option maxRecDepth 65536 in
set_option maxHeartbeats 4000000 in
/-- Field 9's loop over its rows, at the printed trip region. -/
theorem dinst_9 (L : grid0.Coords) (d : Dev nD) (defs : Defs nD τ sig (Elt F) Λ₀) (v19 : BitVec 32) (v38 : BitVec 32) (v169 : BitVec 32) (v172 : BitVec 32) (v185 : BitVec 32)
    (O : CellTallies nD τ sig (HIx 1)) (W0 : Waits sig (HIx 1)) (q : PosShare TreeShare) (fx : S26x16384.Idx → BitVec 32)
    (ft : Buf (Elt F) ((Memref.whole main_v10_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t55_loop L).trips →
      (∀ y : S8192.Idx, sIa.view.read (Elt F) fa y = fx (ix2 ⟨9, by decide⟩ ⟨(y 0).val, Nat.lt_of_lt_of_le (y 0).isLt (by decide)⟩))
      ∧ (∀ y : S8192.Idx, sIb.view.read (Elt F) fb y = fx (ix2 ⟨9, by decide⟩ ⟨(y 0).val + 8192, Nat.add_lt_add_right (y 0).isLt 8192⟩)))
    (hG : ∀ x : S936x16384.Idx, 324 + dlo (wid L) 9 ≤ (x 0).val → (x 0).val < 324 + dlo (wid L) 9 + (k0_t55_loop L).trips →
      G x = ft (tIx (x 0).val (fx (ix2 ⟨9, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v10_scv : Memref sig .scVector .hbm S36x100000 .f32) cc0_scoped74 cc0_scoped75 cc0_scoped76 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (324 + dlo (wid L) 9) 0 0#32
        ∗ (∀ acc, rowsInv (F := F) ((L 0).castLE hcore0) ((L 1).castLE hsub0) d (Memref.whole main_v10_scv : Memref sig .scVector .hbm S36x100000 .f32) cc0_scoped74 cc0_scoped75 cc0_scoped76 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (324 + dlo (wid L) 9) (k0_t55_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t55_loop L) (k0_t55_ok L) 0#32 (k0_t55_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v169 v172 v185) >>= kk) Q := by
  have htr := t55_trips L
  have h1 := dlo_le_dhi (wid L) 9
  have h2 := dhi_le (wid L) 9
  refine dloop_9 (F := F) L d defs cc0_scoped74 cc0_scoped75 cc0_scoped76 (k0_t55_ok L) 0#32 _
    (k0_off667_inb L) (k0_off685_inb L) (k0_off703_inb L)
    (fun k => Scf.Loop.for k0_t56_loop k0_t56_ok 0#32 (k0_t56_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v185 1#32 k))
    (fun k => Scf.Loop.for k0_t57_loop k0_t57_ok 0#32 (k0_t57_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v185 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t55_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t56 Variants.none none Set.univ d (fun y => by rw [(hidx hpos).1 y]; exact hfx _)) kk' Q' fR fO
  · have hpos : 0 < (k0_t55_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t57 Variants.none none Set.univ d (fun y => by rw [(hidx hpos).2 y]; exact hfx _)) kk' Q' fR fO
  · have := (mem_range_iff' (wid L) 9 (dlo (wid L) 9) (by omega)).mp ⟨le_refl _, by omega⟩
    omega
  · have := (mem_range_iff' (wid L) 9 (dhi (wid L) 9 - 1) (by omega)).mp ⟨by omega, by omega⟩
    omega

set_option maxRecDepth 65536 in
set_option maxHeartbeats 4000000 in
/-- Field 10's loop over its rows, at the printed trip region. -/
theorem dinst_10 (L : grid0.Coords) (d : Dev nD) (defs : Defs nD τ sig (Elt F) Λ₀) (v19 : BitVec 32) (v38 : BitVec 32) (v201 : BitVec 32) (c0_i32_120 : BitVec 32) (v208 : BitVec 32) (c1_i32_121 : BitVec 32)
    (O : CellTallies nD τ sig (HIx 1)) (W0 : Waits sig (HIx 1)) (q : PosShare TreeShare) (fx : S26x16384.Idx → BitVec 32)
    (ft : Buf (Elt F) ((Memref.whole main_v11_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t61_loop L).trips →
      (∀ y : S8192.Idx, sIa.view.read (Elt F) fa y = fx (ix2 ⟨10, by decide⟩ ⟨(y 0).val, Nat.lt_of_lt_of_le (y 0).isLt (by decide)⟩))
      ∧ (∀ y : S8192.Idx, sIb.view.read (Elt F) fb y = fx (ix2 ⟨10, by decide⟩ ⟨(y 0).val + 8192, Nat.add_lt_add_right (y 0).isLt 8192⟩)))
    (hG : ∀ x : S936x16384.Idx, 360 + dlo (wid L) 10 ≤ (x 0).val → (x 0).val < 360 + dlo (wid L) 10 + (k0_t61_loop L).trips →
      G x = ft (tIx (x 0).val (fx (ix2 ⟨10, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v11_scv : Memref sig .scVector .hbm S36x100000 .f32) cc0_scoped82 cc0_scoped83 cc0_scoped84 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (360 + dlo (wid L) 10) 0 0#32
        ∗ (∀ acc, rowsInv (F := F) ((L 0).castLE hcore0) ((L 1).castLE hsub0) d (Memref.whole main_v11_scv : Memref sig .scVector .hbm S36x100000 .f32) cc0_scoped82 cc0_scoped83 cc0_scoped84 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (360 + dlo (wid L) 10) (k0_t61_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t61_loop L) (k0_t61_ok L) 0#32 (k0_t61_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v201 c0_i32_120 v208 c1_i32_121) >>= kk) Q := by
  have htr := t61_trips L
  have h1 := dlo_le_dhi (wid L) 10
  have h2 := dhi_le (wid L) 10
  refine dloop_10 (F := F) L d defs cc0_scoped82 cc0_scoped83 cc0_scoped84 (k0_t61_ok L) 0#32 _
    (k0_off741_inb L) (k0_off759_inb L) (k0_off777_inb L)
    (fun k => Scf.Loop.for k0_t62_loop k0_t62_ok 0#32 (k0_t62_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v201 1#32 k))
    (fun k => Scf.Loop.for k0_t63_loop k0_t63_ok 0#32 (k0_t63_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v201 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t61_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t62 Variants.none none Set.univ d (fun y => by rw [(hidx hpos).1 y]; exact hfx _)) kk' Q' fR fO
  · have hpos : 0 < (k0_t61_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t63 Variants.none none Set.univ d (fun y => by rw [(hidx hpos).2 y]; exact hfx _)) kk' Q' fR fO
  · have := (mem_range_iff' (wid L) 10 (dlo (wid L) 10) (by omega)).mp ⟨le_refl _, by omega⟩
    omega
  · have := (mem_range_iff' (wid L) 10 (dhi (wid L) 10 - 1) (by omega)).mp ⟨by omega, by omega⟩
    omega

set_option maxRecDepth 65536 in
set_option maxHeartbeats 4000000 in
/-- Field 11's loop over its rows, at the printed trip region. -/
theorem dinst_11 (L : grid0.Coords) (d : Dev nD) (defs : Defs nD τ sig (Elt F) Λ₀) (v19 : BitVec 32) (v38 : BitVec 32) (v201 : BitVec 32) (c0_i32_120 : BitVec 32) (v208 : BitVec 32) (c1_i32_121 : BitVec 32) (v217 : BitVec 32)
    (O : CellTallies nD τ sig (HIx 1)) (W0 : Waits sig (HIx 1)) (q : PosShare TreeShare) (fx : S26x16384.Idx → BitVec 32)
    (ft : Buf (Elt F) ((Memref.whole main_v12_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t67_loop L).trips →
      (∀ y : S8192.Idx, sIa.view.read (Elt F) fa y = fx (ix2 ⟨11, by decide⟩ ⟨(y 0).val, Nat.lt_of_lt_of_le (y 0).isLt (by decide)⟩))
      ∧ (∀ y : S8192.Idx, sIb.view.read (Elt F) fb y = fx (ix2 ⟨11, by decide⟩ ⟨(y 0).val + 8192, Nat.add_lt_add_right (y 0).isLt 8192⟩)))
    (hG : ∀ x : S936x16384.Idx, 396 + dlo (wid L) 11 ≤ (x 0).val → (x 0).val < 396 + dlo (wid L) 11 + (k0_t67_loop L).trips →
      G x = ft (tIx (x 0).val (fx (ix2 ⟨11, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v12_scv : Memref sig .scVector .hbm S36x100000 .f32) cc0_scoped90 cc0_scoped91 cc0_scoped92 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (396 + dlo (wid L) 11) 0 0#32
        ∗ (∀ acc, rowsInv (F := F) ((L 0).castLE hcore0) ((L 1).castLE hsub0) d (Memref.whole main_v12_scv : Memref sig .scVector .hbm S36x100000 .f32) cc0_scoped90 cc0_scoped91 cc0_scoped92 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (396 + dlo (wid L) 11) (k0_t67_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t67_loop L) (k0_t67_ok L) 0#32 (k0_t67_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v201 c0_i32_120 v208 c1_i32_121 v217) >>= kk) Q := by
  have htr := t67_trips L
  have h1 := dlo_le_dhi (wid L) 11
  have h2 := dhi_le (wid L) 11
  refine dloop_11 (F := F) L d defs cc0_scoped90 cc0_scoped91 cc0_scoped92 (k0_t67_ok L) 0#32 _
    (k0_off815_inb L) (k0_off833_inb L) (k0_off851_inb L)
    (fun k => Scf.Loop.for k0_t68_loop k0_t68_ok 0#32 (k0_t68_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v217 1#32 k))
    (fun k => Scf.Loop.for k0_t69_loop k0_t69_ok 0#32 (k0_t69_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v217 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t67_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t68 Variants.none none Set.univ d (fun y => by rw [(hidx hpos).1 y]; exact hfx _)) kk' Q' fR fO
  · have hpos : 0 < (k0_t67_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t69 Variants.none none Set.univ d (fun y => by rw [(hidx hpos).2 y]; exact hfx _)) kk' Q' fR fO
  · have := (mem_range_iff' (wid L) 11 (dlo (wid L) 11) (by omega)).mp ⟨le_refl _, by omega⟩
    omega
  · have := (mem_range_iff' (wid L) 11 (dhi (wid L) 11 - 1) (by omega)).mp ⟨by omega, by omega⟩
    omega

set_option maxRecDepth 65536 in
set_option maxHeartbeats 4000000 in
/-- Field 12's loop over its rows, at the printed trip region. -/
theorem dinst_12 (L : grid0.Coords) (d : Dev nD) (defs : Defs nD τ sig (Elt F) Λ₀) (v19 : BitVec 32) (v38 : BitVec 32) (v233 : BitVec 32) (c0_i32_140 : BitVec 32) (v244 : BitVec 32) (c1_i32_142 : BitVec 32)
    (O : CellTallies nD τ sig (HIx 1)) (W0 : Waits sig (HIx 1)) (q : PosShare TreeShare) (fx : S26x16384.Idx → BitVec 32)
    (ft : Buf (Elt F) ((Memref.whole main_v13_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t73_loop L).trips →
      (∀ y : S8192.Idx, sIa.view.read (Elt F) fa y = fx (ix2 ⟨12, by decide⟩ ⟨(y 0).val, Nat.lt_of_lt_of_le (y 0).isLt (by decide)⟩))
      ∧ (∀ y : S8192.Idx, sIb.view.read (Elt F) fb y = fx (ix2 ⟨12, by decide⟩ ⟨(y 0).val + 8192, Nat.add_lt_add_right (y 0).isLt 8192⟩)))
    (hG : ∀ x : S936x16384.Idx, 432 + dlo (wid L) 12 ≤ (x 0).val → (x 0).val < 432 + dlo (wid L) 12 + (k0_t73_loop L).trips →
      G x = ft (tIx (x 0).val (fx (ix2 ⟨12, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v13_scv : Memref sig .scVector .hbm S36x100000 .f32) cc0_scoped98 cc0_scoped99 cc0_scoped100 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (432 + dlo (wid L) 12) 0 0#32
        ∗ (∀ acc, rowsInv (F := F) ((L 0).castLE hcore0) ((L 1).castLE hsub0) d (Memref.whole main_v13_scv : Memref sig .scVector .hbm S36x100000 .f32) cc0_scoped98 cc0_scoped99 cc0_scoped100 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (432 + dlo (wid L) 12) (k0_t73_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t73_loop L) (k0_t73_ok L) 0#32 (k0_t73_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v233 c0_i32_140 v244 c1_i32_142) >>= kk) Q := by
  have htr := t73_trips L
  have h1 := dlo_le_dhi (wid L) 12
  have h2 := dhi_le (wid L) 12
  refine dloop_12 (F := F) L d defs cc0_scoped98 cc0_scoped99 cc0_scoped100 (k0_t73_ok L) 0#32 _
    (k0_off889_inb L) (k0_off907_inb L) (k0_off925_inb L)
    (fun k => Scf.Loop.for k0_t74_loop k0_t74_ok 0#32 (k0_t74_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v233 c1_i32_142 k))
    (fun k => Scf.Loop.for k0_t75_loop k0_t75_ok 0#32 (k0_t75_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v233 c1_i32_142 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t73_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t74 Variants.none none Set.univ d (fun y => by rw [(hidx hpos).1 y]; exact hfx _)) kk' Q' fR fO
  · have hpos : 0 < (k0_t73_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t75 Variants.none none Set.univ d (fun y => by rw [(hidx hpos).2 y]; exact hfx _)) kk' Q' fR fO
  · have := (mem_range_iff' (wid L) 12 (dlo (wid L) 12) (by omega)).mp ⟨le_refl _, by omega⟩
    omega
  · have := (mem_range_iff' (wid L) 12 (dhi (wid L) 12 - 1) (by omega)).mp ⟨by omega, by omega⟩
    omega

set_option maxRecDepth 65536 in
set_option maxHeartbeats 4000000 in
/-- Field 13's loop over its rows, at the printed trip region. -/
theorem dinst_13 (L : grid0.Coords) (d : Dev nD) (defs : Defs nD τ sig (Elt F) Λ₀) (v19 : BitVec 32) (v38 : BitVec 32) (v233 : BitVec 32) (c0_i32_140 : BitVec 32) (v244 : BitVec 32) (c1_i32_142 : BitVec 32) (v249 : BitVec 32)
    (O : CellTallies nD τ sig (HIx 1)) (W0 : Waits sig (HIx 1)) (q : PosShare TreeShare) (fx : S26x16384.Idx → BitVec 32)
    (ft : Buf (Elt F) ((Memref.whole main_v14_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t79_loop L).trips →
      (∀ y : S8192.Idx, sIa.view.read (Elt F) fa y = fx (ix2 ⟨13, by decide⟩ ⟨(y 0).val, Nat.lt_of_lt_of_le (y 0).isLt (by decide)⟩))
      ∧ (∀ y : S8192.Idx, sIb.view.read (Elt F) fb y = fx (ix2 ⟨13, by decide⟩ ⟨(y 0).val + 8192, Nat.add_lt_add_right (y 0).isLt 8192⟩)))
    (hG : ∀ x : S936x16384.Idx, 468 + dlo (wid L) 13 ≤ (x 0).val → (x 0).val < 468 + dlo (wid L) 13 + (k0_t79_loop L).trips →
      G x = ft (tIx (x 0).val (fx (ix2 ⟨13, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v14_scv : Memref sig .scVector .hbm S36x100000 .f32) cc0_scoped106 cc0_scoped107 cc0_scoped108 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (468 + dlo (wid L) 13) 0 0#32
        ∗ (∀ acc, rowsInv (F := F) ((L 0).castLE hcore0) ((L 1).castLE hsub0) d (Memref.whole main_v14_scv : Memref sig .scVector .hbm S36x100000 .f32) cc0_scoped106 cc0_scoped107 cc0_scoped108 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (468 + dlo (wid L) 13) (k0_t79_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t79_loop L) (k0_t79_ok L) 0#32 (k0_t79_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v233 c0_i32_140 v244 c1_i32_142 v249) >>= kk) Q := by
  have htr := t79_trips L
  have h1 := dlo_le_dhi (wid L) 13
  have h2 := dhi_le (wid L) 13
  refine dloop_13 (F := F) L d defs cc0_scoped106 cc0_scoped107 cc0_scoped108 (k0_t79_ok L) 0#32 _
    (k0_off963_inb L) (k0_off981_inb L) (k0_off999_inb L)
    (fun k => Scf.Loop.for k0_t80_loop k0_t80_ok 0#32 (k0_t80_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v249 1#32 k))
    (fun k => Scf.Loop.for k0_t81_loop k0_t81_ok 0#32 (k0_t81_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v249 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t79_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t80 Variants.none none Set.univ d (fun y => by rw [(hidx hpos).1 y]; exact hfx _)) kk' Q' fR fO
  · have hpos : 0 < (k0_t79_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t81 Variants.none none Set.univ d (fun y => by rw [(hidx hpos).2 y]; exact hfx _)) kk' Q' fR fO
  · have := (mem_range_iff' (wid L) 13 (dlo (wid L) 13) (by omega)).mp ⟨le_refl _, by omega⟩
    omega
  · have := (mem_range_iff' (wid L) 13 (dhi (wid L) 13 - 1) (by omega)).mp ⟨by omega, by omega⟩
    omega

set_option maxRecDepth 65536 in
set_option maxHeartbeats 4000000 in
/-- Field 14's loop over its rows, at the printed trip region. -/
theorem dinst_14 (L : grid0.Coords) (d : Dev nD) (defs : Defs nD τ sig (Elt F) Λ₀) (v19 : BitVec 32) (v38 : BitVec 32) (v233 : BitVec 32) (c0_i32_140 : BitVec 32) (v244 : BitVec 32) (c1_i32_142 : BitVec 32) (v265 : BitVec 32)
    (O : CellTallies nD τ sig (HIx 1)) (W0 : Waits sig (HIx 1)) (q : PosShare TreeShare) (fx : S26x16384.Idx → BitVec 32)
    (ft : Buf (Elt F) ((Memref.whole main_v15_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t85_loop L).trips →
      (∀ y : S8192.Idx, sIa.view.read (Elt F) fa y = fx (ix2 ⟨14, by decide⟩ ⟨(y 0).val, Nat.lt_of_lt_of_le (y 0).isLt (by decide)⟩))
      ∧ (∀ y : S8192.Idx, sIb.view.read (Elt F) fb y = fx (ix2 ⟨14, by decide⟩ ⟨(y 0).val + 8192, Nat.add_lt_add_right (y 0).isLt 8192⟩)))
    (hG : ∀ x : S936x16384.Idx, 504 + dlo (wid L) 14 ≤ (x 0).val → (x 0).val < 504 + dlo (wid L) 14 + (k0_t85_loop L).trips →
      G x = ft (tIx (x 0).val (fx (ix2 ⟨14, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v15_scv : Memref sig .scVector .hbm S36x100000 .f32) cc0_scoped114 cc0_scoped115 cc0_scoped116 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (504 + dlo (wid L) 14) 0 0#32
        ∗ (∀ acc, rowsInv (F := F) ((L 0).castLE hcore0) ((L 1).castLE hsub0) d (Memref.whole main_v15_scv : Memref sig .scVector .hbm S36x100000 .f32) cc0_scoped114 cc0_scoped115 cc0_scoped116 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (504 + dlo (wid L) 14) (k0_t85_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t85_loop L) (k0_t85_ok L) 0#32 (k0_t85_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v233 c0_i32_140 v244 c1_i32_142 v265) >>= kk) Q := by
  have htr := t85_trips L
  have h1 := dlo_le_dhi (wid L) 14
  have h2 := dhi_le (wid L) 14
  refine dloop_14 (F := F) L d defs cc0_scoped114 cc0_scoped115 cc0_scoped116 (k0_t85_ok L) 0#32 _
    (k0_off1037_inb L) (k0_off1055_inb L) (k0_off1073_inb L)
    (fun k => Scf.Loop.for k0_t86_loop k0_t86_ok 0#32 (k0_t86_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v265 1#32 k))
    (fun k => Scf.Loop.for k0_t87_loop k0_t87_ok 0#32 (k0_t87_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v265 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t85_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t86 Variants.none none Set.univ d (fun y => by rw [(hidx hpos).1 y]; exact hfx _)) kk' Q' fR fO
  · have hpos : 0 < (k0_t85_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t87 Variants.none none Set.univ d (fun y => by rw [(hidx hpos).2 y]; exact hfx _)) kk' Q' fR fO
  · have := (mem_range_iff' (wid L) 14 (dlo (wid L) 14) (by omega)).mp ⟨le_refl _, by omega⟩
    omega
  · have := (mem_range_iff' (wid L) 14 (dhi (wid L) 14 - 1) (by omega)).mp ⟨by omega, by omega⟩
    omega

set_option maxRecDepth 65536 in
set_option maxHeartbeats 4000000 in
/-- Field 15's loop over its rows, at the printed trip region. -/
theorem dinst_15 (L : grid0.Coords) (d : Dev nD) (defs : Defs nD τ sig (Elt F) Λ₀) (v19 : BitVec 32) (v38 : BitVec 32) (c540_i32 : BitVec 32) (v281 : BitVec 32)
    (O : CellTallies nD τ sig (HIx 1)) (W0 : Waits sig (HIx 1)) (q : PosShare TreeShare) (fx : S26x16384.Idx → BitVec 32)
    (ft : Buf (Elt F) ((Memref.whole main_v16_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t91_loop L).trips →
      (∀ y : S8192.Idx, sIa.view.read (Elt F) fa y = fx (ix2 ⟨15, by decide⟩ ⟨(y 0).val, Nat.lt_of_lt_of_le (y 0).isLt (by decide)⟩))
      ∧ (∀ y : S8192.Idx, sIb.view.read (Elt F) fb y = fx (ix2 ⟨15, by decide⟩ ⟨(y 0).val + 8192, Nat.add_lt_add_right (y 0).isLt 8192⟩)))
    (hG : ∀ x : S936x16384.Idx, 540 + dlo (wid L) 15 ≤ (x 0).val → (x 0).val < 540 + dlo (wid L) 15 + (k0_t91_loop L).trips →
      G x = ft (tIx (x 0).val (fx (ix2 ⟨15, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v16_scv : Memref sig .scVector .hbm S36x100000 .f32) cc0_scoped122 cc0_scoped123 cc0_scoped124 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (540 + dlo (wid L) 15) 0 0#32
        ∗ (∀ acc, rowsInv (F := F) ((L 0).castLE hcore0) ((L 1).castLE hsub0) d (Memref.whole main_v16_scv : Memref sig .scVector .hbm S36x100000 .f32) cc0_scoped122 cc0_scoped123 cc0_scoped124 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (540 + dlo (wid L) 15) (k0_t91_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t91_loop L) (k0_t91_ok L) 0#32 (k0_t91_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c540_i32 v281) >>= kk) Q := by
  have htr := t91_trips L
  have h1 := dlo_le_dhi (wid L) 15
  have h2 := dhi_le (wid L) 15
  refine dloop_15 (F := F) L d defs cc0_scoped122 cc0_scoped123 cc0_scoped124 (k0_t91_ok L) 0#32 _
    (k0_off1111_inb L) (k0_off1129_inb L) (k0_off1147_inb L)
    (fun k => Scf.Loop.for k0_t92_loop k0_t92_ok 0#32 (k0_t92_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v281 1#32 k))
    (fun k => Scf.Loop.for k0_t93_loop k0_t93_ok 0#32 (k0_t93_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v281 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t91_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t92 Variants.none none Set.univ d (fun y => by rw [(hidx hpos).1 y]; exact hfx _)) kk' Q' fR fO
  · have hpos : 0 < (k0_t91_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t93 Variants.none none Set.univ d (fun y => by rw [(hidx hpos).2 y]; exact hfx _)) kk' Q' fR fO
  · have := (mem_range_iff' (wid L) 15 (dlo (wid L) 15) (by omega)).mp ⟨le_refl _, by omega⟩
    omega
  · have := (mem_range_iff' (wid L) 15 (dhi (wid L) 15 - 1) (by omega)).mp ⟨by omega, by omega⟩
    omega

set_option maxRecDepth 65536 in
set_option maxHeartbeats 4000000 in
/-- Field 16's loop over its rows, at the printed trip region. -/
theorem dinst_16 (L : grid0.Coords) (d : Dev nD) (defs : Defs nD τ sig (Elt F) Λ₀) (v19 : BitVec 32) (v38 : BitVec 32) (c540_i32 : BitVec 32) (v297 : BitVec 32)
    (O : CellTallies nD τ sig (HIx 1)) (W0 : Waits sig (HIx 1)) (q : PosShare TreeShare) (fx : S26x16384.Idx → BitVec 32)
    (ft : Buf (Elt F) ((Memref.whole main_v17_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t97_loop L).trips →
      (∀ y : S8192.Idx, sIa.view.read (Elt F) fa y = fx (ix2 ⟨16, by decide⟩ ⟨(y 0).val, Nat.lt_of_lt_of_le (y 0).isLt (by decide)⟩))
      ∧ (∀ y : S8192.Idx, sIb.view.read (Elt F) fb y = fx (ix2 ⟨16, by decide⟩ ⟨(y 0).val + 8192, Nat.add_lt_add_right (y 0).isLt 8192⟩)))
    (hG : ∀ x : S936x16384.Idx, 576 + dlo (wid L) 16 ≤ (x 0).val → (x 0).val < 576 + dlo (wid L) 16 + (k0_t97_loop L).trips →
      G x = ft (tIx (x 0).val (fx (ix2 ⟨16, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v17_scv : Memref sig .scVector .hbm S36x100000 .f32) cc0_scoped130 cc0_scoped131 cc0_scoped132 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (576 + dlo (wid L) 16) 0 0#32
        ∗ (∀ acc, rowsInv (F := F) ((L 0).castLE hcore0) ((L 1).castLE hsub0) d (Memref.whole main_v17_scv : Memref sig .scVector .hbm S36x100000 .f32) cc0_scoped130 cc0_scoped131 cc0_scoped132 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (576 + dlo (wid L) 16) (k0_t97_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t97_loop L) (k0_t97_ok L) 0#32 (k0_t97_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c540_i32 v297) >>= kk) Q := by
  have htr := t97_trips L
  have h1 := dlo_le_dhi (wid L) 16
  have h2 := dhi_le (wid L) 16
  refine dloop_16 (F := F) L d defs cc0_scoped130 cc0_scoped131 cc0_scoped132 (k0_t97_ok L) 0#32 _
    (k0_off1185_inb L) (k0_off1203_inb L) (k0_off1221_inb L)
    (fun k => Scf.Loop.for k0_t98_loop k0_t98_ok 0#32 (k0_t98_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v297 1#32 k))
    (fun k => Scf.Loop.for k0_t99_loop k0_t99_ok 0#32 (k0_t99_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v297 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t97_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t98 Variants.none none Set.univ d (fun y => by rw [(hidx hpos).1 y]; exact hfx _)) kk' Q' fR fO
  · have hpos : 0 < (k0_t97_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t99 Variants.none none Set.univ d (fun y => by rw [(hidx hpos).2 y]; exact hfx _)) kk' Q' fR fO
  · have := (mem_range_iff' (wid L) 16 (dlo (wid L) 16) (by omega)).mp ⟨le_refl _, by omega⟩
    omega
  · have := (mem_range_iff' (wid L) 16 (dhi (wid L) 16 - 1) (by omega)).mp ⟨by omega, by omega⟩
    omega

set_option maxRecDepth 65536 in
set_option maxHeartbeats 4000000 in
/-- Field 17's loop over its rows, at the printed trip region. -/
theorem dinst_17 (L : grid0.Coords) (d : Dev nD) (defs : Defs nD τ sig (Elt F) Λ₀) (v19 : BitVec 32) (v38 : BitVec 32) (c36_i32_185 : BitVec 32) (v312 : BitVec 32) (v313 : BitVec 32)
    (O : CellTallies nD τ sig (HIx 1)) (W0 : Waits sig (HIx 1)) (q : PosShare TreeShare) (fx : S26x16384.Idx → BitVec 32)
    (ft : Buf (Elt F) ((Memref.whole main_v18_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t103_loop L).trips →
      (∀ y : S8192.Idx, sIa.view.read (Elt F) fa y = fx (ix2 ⟨17, by decide⟩ ⟨(y 0).val, Nat.lt_of_lt_of_le (y 0).isLt (by decide)⟩))
      ∧ (∀ y : S8192.Idx, sIb.view.read (Elt F) fb y = fx (ix2 ⟨17, by decide⟩ ⟨(y 0).val + 8192, Nat.add_lt_add_right (y 0).isLt 8192⟩)))
    (hG : ∀ x : S936x16384.Idx, 612 + dlo (wid L) 17 ≤ (x 0).val → (x 0).val < 612 + dlo (wid L) 17 + (k0_t103_loop L).trips →
      G x = ft (tIx (x 0).val (fx (ix2 ⟨17, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v18_scv : Memref sig .scVector .hbm S36x100000 .f32) cc0_scoped138 cc0_scoped139 cc0_scoped140 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (612 + dlo (wid L) 17) 0 0#32
        ∗ (∀ acc, rowsInv (F := F) ((L 0).castLE hcore0) ((L 1).castLE hsub0) d (Memref.whole main_v18_scv : Memref sig .scVector .hbm S36x100000 .f32) cc0_scoped138 cc0_scoped139 cc0_scoped140 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (612 + dlo (wid L) 17) (k0_t103_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t103_loop L) (k0_t103_ok L) 0#32 (k0_t103_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_185 v312 v313) >>= kk) Q := by
  have htr := t103_trips L
  have h1 := dlo_le_dhi (wid L) 17
  have h2 := dhi_le (wid L) 17
  refine dloop_17 (F := F) L d defs cc0_scoped138 cc0_scoped139 cc0_scoped140 (k0_t103_ok L) 0#32 _
    (k0_off1259_inb L) (k0_off1277_inb L) (k0_off1295_inb L)
    (fun k => Scf.Loop.for k0_t104_loop k0_t104_ok 0#32 (k0_t104_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v313 1#32 k))
    (fun k => Scf.Loop.for k0_t105_loop k0_t105_ok 0#32 (k0_t105_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v313 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t103_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t104 Variants.none none Set.univ d (fun y => by rw [(hidx hpos).1 y]; exact hfx _)) kk' Q' fR fO
  · have hpos : 0 < (k0_t103_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t105 Variants.none none Set.univ d (fun y => by rw [(hidx hpos).2 y]; exact hfx _)) kk' Q' fR fO
  · have := (mem_range_iff' (wid L) 17 (dlo (wid L) 17) (by omega)).mp ⟨le_refl _, by omega⟩
    omega
  · have := (mem_range_iff' (wid L) 17 (dhi (wid L) 17 - 1) (by omega)).mp ⟨by omega, by omega⟩
    omega

set_option maxRecDepth 65536 in
set_option maxHeartbeats 4000000 in
/-- Field 18's loop over its rows, at the printed trip region. -/
theorem dinst_18 (L : grid0.Coords) (d : Dev nD) (defs : Defs nD τ sig (Elt F) Λ₀) (v19 : BitVec 32) (v38 : BitVec 32) (c36_i32_185 : BitVec 32) (v312 : BitVec 32) (v329 : BitVec 32)
    (O : CellTallies nD τ sig (HIx 1)) (W0 : Waits sig (HIx 1)) (q : PosShare TreeShare) (fx : S26x16384.Idx → BitVec 32)
    (ft : Buf (Elt F) ((Memref.whole main_v19_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t109_loop L).trips →
      (∀ y : S8192.Idx, sIa.view.read (Elt F) fa y = fx (ix2 ⟨18, by decide⟩ ⟨(y 0).val, Nat.lt_of_lt_of_le (y 0).isLt (by decide)⟩))
      ∧ (∀ y : S8192.Idx, sIb.view.read (Elt F) fb y = fx (ix2 ⟨18, by decide⟩ ⟨(y 0).val + 8192, Nat.add_lt_add_right (y 0).isLt 8192⟩)))
    (hG : ∀ x : S936x16384.Idx, 648 + dlo (wid L) 18 ≤ (x 0).val → (x 0).val < 648 + dlo (wid L) 18 + (k0_t109_loop L).trips →
      G x = ft (tIx (x 0).val (fx (ix2 ⟨18, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v19_scv : Memref sig .scVector .hbm S36x100000 .f32) cc0_scoped146 cc0_scoped147 cc0_scoped148 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (648 + dlo (wid L) 18) 0 0#32
        ∗ (∀ acc, rowsInv (F := F) ((L 0).castLE hcore0) ((L 1).castLE hsub0) d (Memref.whole main_v19_scv : Memref sig .scVector .hbm S36x100000 .f32) cc0_scoped146 cc0_scoped147 cc0_scoped148 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (648 + dlo (wid L) 18) (k0_t109_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t109_loop L) (k0_t109_ok L) 0#32 (k0_t109_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 c36_i32_185 v312 v329) >>= kk) Q := by
  have htr := t109_trips L
  have h1 := dlo_le_dhi (wid L) 18
  have h2 := dhi_le (wid L) 18
  refine dloop_18 (F := F) L d defs cc0_scoped146 cc0_scoped147 cc0_scoped148 (k0_t109_ok L) 0#32 _
    (k0_off1333_inb L) (k0_off1351_inb L) (k0_off1369_inb L)
    (fun k => Scf.Loop.for k0_t110_loop k0_t110_ok 0#32 (k0_t110_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v329 1#32 k))
    (fun k => Scf.Loop.for k0_t111_loop k0_t111_ok 0#32 (k0_t111_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v329 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t109_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t110 Variants.none none Set.univ d (fun y => by rw [(hidx hpos).1 y]; exact hfx _)) kk' Q' fR fO
  · have hpos : 0 < (k0_t109_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t111 Variants.none none Set.univ d (fun y => by rw [(hidx hpos).2 y]; exact hfx _)) kk' Q' fR fO
  · have := (mem_range_iff' (wid L) 18 (dlo (wid L) 18) (by omega)).mp ⟨le_refl _, by omega⟩
    omega
  · have := (mem_range_iff' (wid L) 18 (dhi (wid L) 18 - 1) (by omega)).mp ⟨by omega, by omega⟩
    omega

set_option maxRecDepth 65536 in
set_option maxHeartbeats 4000000 in
/-- Field 19's loop over its rows, at the printed trip region. -/
theorem dinst_19 (L : grid0.Coords) (d : Dev nD) (defs : Defs nD τ sig (Elt F) Λ₀) (v19 : BitVec 32) (v38 : BitVec 32) (v345 : BitVec 32) (v346 : BitVec 32) (c0_i32_207 : BitVec 32)
    (O : CellTallies nD τ sig (HIx 1)) (W0 : Waits sig (HIx 1)) (q : PosShare TreeShare) (fx : S26x16384.Idx → BitVec 32)
    (ft : Buf (Elt F) ((Memref.whole main_v20_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t115_loop L).trips →
      (∀ y : S8192.Idx, sIa.view.read (Elt F) fa y = fx (ix2 ⟨19, by decide⟩ ⟨(y 0).val, Nat.lt_of_lt_of_le (y 0).isLt (by decide)⟩))
      ∧ (∀ y : S8192.Idx, sIb.view.read (Elt F) fb y = fx (ix2 ⟨19, by decide⟩ ⟨(y 0).val + 8192, Nat.add_lt_add_right (y 0).isLt 8192⟩)))
    (hG : ∀ x : S936x16384.Idx, 684 + dlo (wid L) 19 ≤ (x 0).val → (x 0).val < 684 + dlo (wid L) 19 + (k0_t115_loop L).trips →
      G x = ft (tIx (x 0).val (fx (ix2 ⟨19, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v20_scv : Memref sig .scVector .hbm S36x100000 .f32) cc0_scoped154 cc0_scoped155 cc0_scoped156 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (684 + dlo (wid L) 19) 0 0#32
        ∗ (∀ acc, rowsInv (F := F) ((L 0).castLE hcore0) ((L 1).castLE hsub0) d (Memref.whole main_v20_scv : Memref sig .scVector .hbm S36x100000 .f32) cc0_scoped154 cc0_scoped155 cc0_scoped156 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (684 + dlo (wid L) 19) (k0_t115_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t115_loop L) (k0_t115_ok L) 0#32 (k0_t115_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v345 v346 c0_i32_207) >>= kk) Q := by
  have htr := t115_trips L
  have h1 := dlo_le_dhi (wid L) 19
  have h2 := dhi_le (wid L) 19
  refine dloop_19 (F := F) L d defs cc0_scoped154 cc0_scoped155 cc0_scoped156 (k0_t115_ok L) 0#32 _
    (k0_off1407_inb L) (k0_off1425_inb L) (k0_off1443_inb L)
    (fun k => Scf.Loop.for k0_t116_loop k0_t116_ok 0#32 (k0_t116_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v345 1#32 k))
    (fun k => Scf.Loop.for k0_t117_loop k0_t117_ok 0#32 (k0_t117_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v345 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t115_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t116 Variants.none none Set.univ d (fun y => by rw [(hidx hpos).1 y]; exact hfx _)) kk' Q' fR fO
  · have hpos : 0 < (k0_t115_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t117 Variants.none none Set.univ d (fun y => by rw [(hidx hpos).2 y]; exact hfx _)) kk' Q' fR fO
  · have := (mem_range_iff' (wid L) 19 (dlo (wid L) 19) (by omega)).mp ⟨le_refl _, by omega⟩
    omega
  · have := (mem_range_iff' (wid L) 19 (dhi (wid L) 19 - 1) (by omega)).mp ⟨by omega, by omega⟩
    omega

set_option maxRecDepth 65536 in
set_option maxHeartbeats 4000000 in
/-- Field 20's loop over its rows, at the printed trip region. -/
theorem dinst_20 (L : grid0.Coords) (d : Dev nD) (defs : Defs nD τ sig (Elt F) Λ₀) (v19 : BitVec 32) (v38 : BitVec 32) (v345 : BitVec 32) (v346 : BitVec 32) (c0_i32_207 : BitVec 32) (v361 : BitVec 32)
    (O : CellTallies nD τ sig (HIx 1)) (W0 : Waits sig (HIx 1)) (q : PosShare TreeShare) (fx : S26x16384.Idx → BitVec 32)
    (ft : Buf (Elt F) ((Memref.whole main_v21_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t121_loop L).trips →
      (∀ y : S8192.Idx, sIa.view.read (Elt F) fa y = fx (ix2 ⟨20, by decide⟩ ⟨(y 0).val, Nat.lt_of_lt_of_le (y 0).isLt (by decide)⟩))
      ∧ (∀ y : S8192.Idx, sIb.view.read (Elt F) fb y = fx (ix2 ⟨20, by decide⟩ ⟨(y 0).val + 8192, Nat.add_lt_add_right (y 0).isLt 8192⟩)))
    (hG : ∀ x : S936x16384.Idx, 720 + dlo (wid L) 20 ≤ (x 0).val → (x 0).val < 720 + dlo (wid L) 20 + (k0_t121_loop L).trips →
      G x = ft (tIx (x 0).val (fx (ix2 ⟨20, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v21_scv : Memref sig .scVector .hbm S36x100000 .f32) cc0_scoped162 cc0_scoped163 cc0_scoped164 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (720 + dlo (wid L) 20) 0 0#32
        ∗ (∀ acc, rowsInv (F := F) ((L 0).castLE hcore0) ((L 1).castLE hsub0) d (Memref.whole main_v21_scv : Memref sig .scVector .hbm S36x100000 .f32) cc0_scoped162 cc0_scoped163 cc0_scoped164 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (720 + dlo (wid L) 20) (k0_t121_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t121_loop L) (k0_t121_ok L) 0#32 (k0_t121_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v345 v346 c0_i32_207 v361) >>= kk) Q := by
  have htr := t121_trips L
  have h1 := dlo_le_dhi (wid L) 20
  have h2 := dhi_le (wid L) 20
  refine dloop_20 (F := F) L d defs cc0_scoped162 cc0_scoped163 cc0_scoped164 (k0_t121_ok L) 0#32 _
    (k0_off1481_inb L) (k0_off1499_inb L) (k0_off1517_inb L)
    (fun k => Scf.Loop.for k0_t122_loop k0_t122_ok 0#32 (k0_t122_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v361 1#32 k))
    (fun k => Scf.Loop.for k0_t123_loop k0_t123_ok 0#32 (k0_t123_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v361 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t121_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t122 Variants.none none Set.univ d (fun y => by rw [(hidx hpos).1 y]; exact hfx _)) kk' Q' fR fO
  · have hpos : 0 < (k0_t121_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t123 Variants.none none Set.univ d (fun y => by rw [(hidx hpos).2 y]; exact hfx _)) kk' Q' fR fO
  · have := (mem_range_iff' (wid L) 20 (dlo (wid L) 20) (by omega)).mp ⟨le_refl _, by omega⟩
    omega
  · have := (mem_range_iff' (wid L) 20 (dhi (wid L) 20 - 1) (by omega)).mp ⟨by omega, by omega⟩
    omega

set_option maxRecDepth 65536 in
set_option maxHeartbeats 4000000 in
/-- Field 21's loop over its rows, at the printed trip region. -/
theorem dinst_21 (L : grid0.Coords) (d : Dev nD) (defs : Defs nD τ sig (Elt F) Λ₀) (v19 : BitVec 32) (v38 : BitVec 32) (v377 : BitVec 32) (v380 : BitVec 32) (v381 : BitVec 1)
    (O : CellTallies nD τ sig (HIx 1)) (W0 : Waits sig (HIx 1)) (q : PosShare TreeShare) (fx : S26x16384.Idx → BitVec 32)
    (ft : Buf (Elt F) ((Memref.whole main_v22_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t127_loop L).trips →
      (∀ y : S8192.Idx, sIa.view.read (Elt F) fa y = fx (ix2 ⟨21, by decide⟩ ⟨(y 0).val, Nat.lt_of_lt_of_le (y 0).isLt (by decide)⟩))
      ∧ (∀ y : S8192.Idx, sIb.view.read (Elt F) fb y = fx (ix2 ⟨21, by decide⟩ ⟨(y 0).val + 8192, Nat.add_lt_add_right (y 0).isLt 8192⟩)))
    (hG : ∀ x : S936x16384.Idx, 756 + dlo (wid L) 21 ≤ (x 0).val → (x 0).val < 756 + dlo (wid L) 21 + (k0_t127_loop L).trips →
      G x = ft (tIx (x 0).val (fx (ix2 ⟨21, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v22_scv : Memref sig .scVector .hbm S36x100000 .f32) cc0_scoped170 cc0_scoped171 cc0_scoped172 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (756 + dlo (wid L) 21) 0 0#32
        ∗ (∀ acc, rowsInv (F := F) ((L 0).castLE hcore0) ((L 1).castLE hsub0) d (Memref.whole main_v22_scv : Memref sig .scVector .hbm S36x100000 .f32) cc0_scoped170 cc0_scoped171 cc0_scoped172 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (756 + dlo (wid L) 21) (k0_t127_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t127_loop L) (k0_t127_ok L) 0#32 (k0_t127_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v377 v380 v381) >>= kk) Q := by
  have htr := t127_trips L
  have h1 := dlo_le_dhi (wid L) 21
  have h2 := dhi_le (wid L) 21
  refine dloop_21 (F := F) L d defs cc0_scoped170 cc0_scoped171 cc0_scoped172 (k0_t127_ok L) 0#32 _
    (k0_off1555_inb L) (k0_off1573_inb L) (k0_off1591_inb L)
    (fun k => Scf.Loop.for k0_t128_loop k0_t128_ok 0#32 (k0_t128_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v377 1#32 k))
    (fun k => Scf.Loop.for k0_t129_loop k0_t129_ok 0#32 (k0_t129_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v377 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t127_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t128 Variants.none none Set.univ d (fun y => by rw [(hidx hpos).1 y]; exact hfx _)) kk' Q' fR fO
  · have hpos : 0 < (k0_t127_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t129 Variants.none none Set.univ d (fun y => by rw [(hidx hpos).2 y]; exact hfx _)) kk' Q' fR fO
  · have := (mem_range_iff' (wid L) 21 (dlo (wid L) 21) (by omega)).mp ⟨le_refl _, by omega⟩
    omega
  · have := (mem_range_iff' (wid L) 21 (dhi (wid L) 21 - 1) (by omega)).mp ⟨by omega, by omega⟩
    omega

set_option maxRecDepth 65536 in
set_option maxHeartbeats 4000000 in
/-- Field 22's loop over its rows, at the printed trip region. -/
theorem dinst_22 (L : grid0.Coords) (d : Dev nD) (defs : Defs nD τ sig (Elt F) Λ₀) (v19 : BitVec 32) (v38 : BitVec 32) (v377 : BitVec 32) (v380 : BitVec 32) (v381 : BitVec 1) (v393 : BitVec 32)
    (O : CellTallies nD τ sig (HIx 1)) (W0 : Waits sig (HIx 1)) (q : PosShare TreeShare) (fx : S26x16384.Idx → BitVec 32)
    (ft : Buf (Elt F) ((Memref.whole main_v23_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t133_loop L).trips →
      (∀ y : S8192.Idx, sIa.view.read (Elt F) fa y = fx (ix2 ⟨22, by decide⟩ ⟨(y 0).val, Nat.lt_of_lt_of_le (y 0).isLt (by decide)⟩))
      ∧ (∀ y : S8192.Idx, sIb.view.read (Elt F) fb y = fx (ix2 ⟨22, by decide⟩ ⟨(y 0).val + 8192, Nat.add_lt_add_right (y 0).isLt 8192⟩)))
    (hG : ∀ x : S936x16384.Idx, 792 + dlo (wid L) 22 ≤ (x 0).val → (x 0).val < 792 + dlo (wid L) 22 + (k0_t133_loop L).trips →
      G x = ft (tIx (x 0).val (fx (ix2 ⟨22, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v23_scv : Memref sig .scVector .hbm S36x100000 .f32) cc0_scoped178 cc0_scoped179 cc0_scoped180 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (792 + dlo (wid L) 22) 0 0#32
        ∗ (∀ acc, rowsInv (F := F) ((L 0).castLE hcore0) ((L 1).castLE hsub0) d (Memref.whole main_v23_scv : Memref sig .scVector .hbm S36x100000 .f32) cc0_scoped178 cc0_scoped179 cc0_scoped180 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (792 + dlo (wid L) 22) (k0_t133_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t133_loop L) (k0_t133_ok L) 0#32 (k0_t133_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v377 v380 v381 v393) >>= kk) Q := by
  have htr := t133_trips L
  have h1 := dlo_le_dhi (wid L) 22
  have h2 := dhi_le (wid L) 22
  refine dloop_22 (F := F) L d defs cc0_scoped178 cc0_scoped179 cc0_scoped180 (k0_t133_ok L) 0#32 _
    (k0_off1629_inb L) (k0_off1647_inb L) (k0_off1665_inb L)
    (fun k => Scf.Loop.for k0_t134_loop k0_t134_ok 0#32 (k0_t134_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v393 1#32 k))
    (fun k => Scf.Loop.for k0_t135_loop k0_t135_ok 0#32 (k0_t135_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v393 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t133_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t134 Variants.none none Set.univ d (fun y => by rw [(hidx hpos).1 y]; exact hfx _)) kk' Q' fR fO
  · have hpos : 0 < (k0_t133_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t135 Variants.none none Set.univ d (fun y => by rw [(hidx hpos).2 y]; exact hfx _)) kk' Q' fR fO
  · have := (mem_range_iff' (wid L) 22 (dlo (wid L) 22) (by omega)).mp ⟨le_refl _, by omega⟩
    omega
  · have := (mem_range_iff' (wid L) 22 (dhi (wid L) 22 - 1) (by omega)).mp ⟨by omega, by omega⟩
    omega

set_option maxRecDepth 65536 in
set_option maxHeartbeats 4000000 in
/-- Field 23's loop over its rows, at the printed trip region. -/
theorem dinst_23 (L : grid0.Coords) (d : Dev nD) (defs : Defs nD τ sig (Elt F) Λ₀) (v19 : BitVec 32) (v38 : BitVec 32) (v409 : BitVec 32) (v412 : BitVec 32)
    (O : CellTallies nD τ sig (HIx 1)) (W0 : Waits sig (HIx 1)) (q : PosShare TreeShare) (fx : S26x16384.Idx → BitVec 32)
    (ft : Buf (Elt F) ((Memref.whole main_v24_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t139_loop L).trips →
      (∀ y : S8192.Idx, sIa.view.read (Elt F) fa y = fx (ix2 ⟨23, by decide⟩ ⟨(y 0).val, Nat.lt_of_lt_of_le (y 0).isLt (by decide)⟩))
      ∧ (∀ y : S8192.Idx, sIb.view.read (Elt F) fb y = fx (ix2 ⟨23, by decide⟩ ⟨(y 0).val + 8192, Nat.add_lt_add_right (y 0).isLt 8192⟩)))
    (hG : ∀ x : S936x16384.Idx, 828 + dlo (wid L) 23 ≤ (x 0).val → (x 0).val < 828 + dlo (wid L) 23 + (k0_t139_loop L).trips →
      G x = ft (tIx (x 0).val (fx (ix2 ⟨23, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v24_scv : Memref sig .scVector .hbm S36x100000 .f32) cc0_scoped186 cc0_scoped187 cc0_scoped188 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (828 + dlo (wid L) 23) 0 0#32
        ∗ (∀ acc, rowsInv (F := F) ((L 0).castLE hcore0) ((L 1).castLE hsub0) d (Memref.whole main_v24_scv : Memref sig .scVector .hbm S36x100000 .f32) cc0_scoped186 cc0_scoped187 cc0_scoped188 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (828 + dlo (wid L) 23) (k0_t139_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t139_loop L) (k0_t139_ok L) 0#32 (k0_t139_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v409 v412) >>= kk) Q := by
  have htr := t139_trips L
  have h1 := dlo_le_dhi (wid L) 23
  have h2 := dhi_le (wid L) 23
  refine dloop_23 (F := F) L d defs cc0_scoped186 cc0_scoped187 cc0_scoped188 (k0_t139_ok L) 0#32 _
    (k0_off1703_inb L) (k0_off1721_inb L) (k0_off1739_inb L)
    (fun k => Scf.Loop.for k0_t140_loop k0_t140_ok 0#32 (k0_t140_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v409 1#32 k))
    (fun k => Scf.Loop.for k0_t141_loop k0_t141_ok 0#32 (k0_t141_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v409 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t139_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t140 Variants.none none Set.univ d (fun y => by rw [(hidx hpos).1 y]; exact hfx _)) kk' Q' fR fO
  · have hpos : 0 < (k0_t139_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t141 Variants.none none Set.univ d (fun y => by rw [(hidx hpos).2 y]; exact hfx _)) kk' Q' fR fO
  · have := (mem_range_iff' (wid L) 23 (dlo (wid L) 23) (by omega)).mp ⟨le_refl _, by omega⟩
    omega
  · have := (mem_range_iff' (wid L) 23 (dhi (wid L) 23 - 1) (by omega)).mp ⟨by omega, by omega⟩
    omega

set_option maxRecDepth 65536 in
set_option maxHeartbeats 4000000 in
/-- Field 24's loop over its rows, at the printed trip region. -/
theorem dinst_24 (L : grid0.Coords) (d : Dev nD) (defs : Defs nD τ sig (Elt F) Λ₀) (v19 : BitVec 32) (v38 : BitVec 32) (v409 : BitVec 32) (v412 : BitVec 32) (v425 : BitVec 32)
    (O : CellTallies nD τ sig (HIx 1)) (W0 : Waits sig (HIx 1)) (q : PosShare TreeShare) (fx : S26x16384.Idx → BitVec 32)
    (ft : Buf (Elt F) ((Memref.whole main_v25_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t145_loop L).trips →
      (∀ y : S8192.Idx, sIa.view.read (Elt F) fa y = fx (ix2 ⟨24, by decide⟩ ⟨(y 0).val, Nat.lt_of_lt_of_le (y 0).isLt (by decide)⟩))
      ∧ (∀ y : S8192.Idx, sIb.view.read (Elt F) fb y = fx (ix2 ⟨24, by decide⟩ ⟨(y 0).val + 8192, Nat.add_lt_add_right (y 0).isLt 8192⟩)))
    (hG : ∀ x : S936x16384.Idx, 864 + dlo (wid L) 24 ≤ (x 0).val → (x 0).val < 864 + dlo (wid L) 24 + (k0_t145_loop L).trips →
      G x = ft (tIx (x 0).val (fx (ix2 ⟨24, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v25_scv : Memref sig .scVector .hbm S36x100000 .f32) cc0_scoped194 cc0_scoped195 cc0_scoped196 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (864 + dlo (wid L) 24) 0 0#32
        ∗ (∀ acc, rowsInv (F := F) ((L 0).castLE hcore0) ((L 1).castLE hsub0) d (Memref.whole main_v25_scv : Memref sig .scVector .hbm S36x100000 .f32) cc0_scoped194 cc0_scoped195 cc0_scoped196 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (864 + dlo (wid L) 24) (k0_t145_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t145_loop L) (k0_t145_ok L) 0#32 (k0_t145_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v19 v38 v409 v412 v425) >>= kk) Q := by
  have htr := t145_trips L
  have h1 := dlo_le_dhi (wid L) 24
  have h2 := dhi_le (wid L) 24
  refine dloop_24 (F := F) L d defs cc0_scoped194 cc0_scoped195 cc0_scoped196 (k0_t145_ok L) 0#32 _
    (k0_off1777_inb L) (k0_off1795_inb L) (k0_off1813_inb L)
    (fun k => Scf.Loop.for k0_t146_loop k0_t146_ok 0#32 (k0_t146_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v425 1#32 k))
    (fun k => Scf.Loop.for k0_t147_loop k0_t147_ok 0#32 (k0_t147_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v425 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t145_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t146 Variants.none none Set.univ d (fun y => by rw [(hidx hpos).1 y]; exact hfx _)) kk' Q' fR fO
  · have hpos : 0 < (k0_t145_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t147 Variants.none none Set.univ d (fun y => by rw [(hidx hpos).2 y]; exact hfx _)) kk' Q' fR fO
  · have := (mem_range_iff' (wid L) 24 (dlo (wid L) 24) (by omega)).mp ⟨le_refl _, by omega⟩
    omega
  · have := (mem_range_iff' (wid L) 24 (dhi (wid L) 24 - 1) (by omega)).mp ⟨by omega, by omega⟩
    omega

set_option maxRecDepth 65536 in
set_option maxHeartbeats 4000000 in
/-- Field 25's loop over its rows, at the printed trip region. -/
theorem dinst_25 (L : grid0.Coords) (d : Dev nD) (defs : Defs nD τ sig (Elt F) Λ₀) (v441 : BitVec 32)
    (O : CellTallies nD τ sig (HIx 1)) (W0 : Waits sig (HIx 1)) (q : PosShare TreeShare) (fx : S26x16384.Idx → BitVec 32)
    (ft : Buf (Elt F) ((Memref.whole main_v26_scv : Memref sig .scVector .hbm S36x100000 .f32).view.loc (V d ((L 0).castLE hcore0) ((L 1).castLE hsub0))))
    (fa : Buf (Elt F) (sIa.view.loc (V d ((L 0).castLE hcore0) ((L 1).castLE hsub0)))) (fb : Buf (Elt F) (sIb.view.loc (V d ((L 0).castLE hcore0) ((L 1).castLE hsub0))))
    (G g0 : Buf (Elt F) (oV.view.loc (V d ((L 0).castLE hcore0) ((L 1).castLE hsub0))))
    (hfx : ∀ y, (fx y).toNat < 100000)
    (hidx : 0 < (k0_t151_loop L).trips →
      (∀ y : S8192.Idx, sIa.view.read (Elt F) fa y = fx (ix2 ⟨25, by decide⟩ ⟨(y 0).val, Nat.lt_of_lt_of_le (y 0).isLt (by decide)⟩))
      ∧ (∀ y : S8192.Idx, sIb.view.read (Elt F) fb y = fx (ix2 ⟨25, by decide⟩ ⟨(y 0).val + 8192, Nat.add_lt_add_right (y 0).isLt 8192⟩)))
    (hG : ∀ x : S936x16384.Idx, 900 + dlo (wid L) 25 ≤ (x 0).val → (x 0).val < 900 + dlo (wid L) 25 + (k0_t151_loop L).trips →
      G x = ft (tIx (x 0).val (fx (ix2 ⟨25, by decide⟩ (x 1))).toNat))
    {α : Type} (kk : BitVec 32 → Prog (TpuEff nD τ sig (Elt F) Λ₀ (.scVector ((L 0).castLE hcore0) ((L 1).castLE hsub0))) α) (Q : α → sProp 𝕄) :
    iprop(rowsInv (F := F) ((L 0).castLE hcore0) ((L 1).castLE hsub0) d (Memref.whole main_v26_scv : Memref sig .scVector .hbm S36x100000 .f32) cc0_scoped202 cc0_scoped203 cc0_scoped204 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (900 + dlo (wid L) 25) 0 0#32
        ∗ (∀ acc, rowsInv (F := F) ((L 0).castLE hcore0) ((L 1).castLE hsub0) d (Memref.whole main_v26_scv : Memref sig .scVector .hbm S36x100000 .f32) cc0_scoped202 cc0_scoped203 cc0_scoped204 (sIa.view.loc (V d ((L 0).castLE hcore0) ((L 1).castLE hsub0)) ↦{fullShare} fa) (sIb.view.loc (V d ((L 0).castLE hcore0) ((L 1).castLE hsub0)) ↦{fullShare} fb) O W0 q ft (Finset.univ.filter fun x : S936x16384.Idx => Cert.Spec.lo (wid L) ≤ (x 0).val ∧ (x 0).val < Cert.Spec.hi (wid L)) G g0 (900 + dlo (wid L) 25) (k0_t151_loop L).trips acc
            -∗ wp frame (wpE defs Variants.none (V d ((L 0).castLE hcore0) ((L 1).castLE hsub0)) none) Set.univ (kk acc) Q))
      ⊢ wp frame (wpE defs Variants.none (V d ((L 0).castLE hcore0) ((L 1).castLE hsub0)) none) Set.univ
          (Scf.Loop.for (k0_t151_loop L) (k0_t151_ok L) 0#32 (k0_t151_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v441) >>= kk) Q := by
  have htr := t151_trips L
  have h1 := dlo_le_dhi (wid L) 25
  have h2 := dhi_le (wid L) 25
  refine dloop_25 (F := F) L d defs cc0_scoped202 cc0_scoped203 cc0_scoped204 (k0_t151_ok L) 0#32 _
    (k0_off1851_inb L) (k0_off1869_inb L) (k0_off1887_inb L)
    (fun k => Scf.Loop.for k0_t152_loop k0_t152_ok 0#32 (k0_t152_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v441 1#32 k))
    (fun k => Scf.Loop.for k0_t153_loop k0_t153_ok 0#32 (k0_t153_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 v441 1#32 k))
    (fun _ _ => rfl) sIa sIb fa fb fx (fun k => ?_) (fun k => ?_) hidx O W0 q ft _ (Cert.Spec.lo (wid L)) (Cert.Spec.hi (wid L))
    (fun x => by rw [Finset.mem_filter]; exact ⟨fun h => h.2, fun h => ⟨Finset.mem_univ _, h⟩⟩) (fun hpos => ?_) (fun hpos => ?_) G g0 hG kk Q
  · have hpos : 0 < (k0_t151_loop L).trips := Nat.lt_of_le_of_lt (Nat.zero_le _) k.isLt
    unfold GatherRule
    intro α' kk' Q' fR fO
    exact gatherRule_of (F := F) _ _ defs d _ sIa fa (fun kk'' Q'' fR' fO' =>
      Cert.Kernel.Gather.loop_t152 Variants.none none Set.univ d (fun y => by rw [(hidx hpos).1 y]; exact hfx _)) kk' Q' fR fO
  · have hpos : 0 < (k0_t151_loop L).trips := Nat.lt_of_le_of_lt (Nat.zero_le _) k.isLt
    unfold GatherRule
    intro α' kk' Q' fR fO
    exact gatherRule_of (F := F) _ _ defs d _ sIb fb (fun kk'' Q'' fR' fO' =>
      Cert.Kernel.Gather.loop_t153 Variants.none none Set.univ d (fun y => by rw [(hidx hpos).2 y]; exact hfx _)) kk' Q' fR fO
  · have := (mem_range_iff' (wid L) 25 (dlo (wid L) 25) (by omega)).mp ⟨le_refl _, by omega⟩
    omega
  · have := (mem_range_iff' (wid L) 25 (dhi (wid L) 25 - 1) (by omega)).mp ⟨by omega, by omega⟩
    omega

end Cert.Proof.BodyRowBits
-- ==== Proof.BodyRulesGenBits.lean ====
import proofs.«204037_g66941360275737_cont_sun_c4_657_24_alg».proof.Proof.BodyTopBaseBits
import proofs.«204037_g66941360275737_cont_sun_c4_657_24_alg».proof.Proof.BodyRowBits

/-!
# From the loop over a field's rows to the field's rule

The loop over the rows of field `j` is proved from an invariant (the table, the scratch buffers, the tile's output
rows agreeing with the specified values below the current row, the three semaphores, what the tile owes). The rule the
tile's run asks of the field's loop is that invariant at no trips packed from its separate resources, and at the last
trip unpacked into them.
-/

noncomputable section

namespace Cert.Proof.BodyRulesBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀
open Cert.UnitArith Cert.Kernel.UnitArithK
open Cert.Proof.BodyTopBits

variable {F : FTy → Type} [FloatOps F]

local notation "𝕄" => MT nD τ sig (HIx 1) (Elt F) ℕ BodyTopBits.UU ℕ

variable (L : grid0.Coords) (d : Dev nD) (defs : Defs nD τ sig (Elt F) Λ₀)

/-- The value a field's loop leaves at output element `x`: the table's entry at component `x 0 % 36` and the row the
    index word at `(j, x 1)` names. -/
def GV (j : ℕ) (hj : j < 26) (fx : S26x16384.Idx → BitVec 32) (ft : S36x100000.Idx → Elt F .f32) : S936x16384.Idx → Elt F .f32 :=
  fun x => ft (ix2 (Cert.Spec.compOf (x 0)) (Cert.Spec.rowIx (fx (ix2 ⟨j, hj⟩ (x 1)))))

/-- The shape of a field's loop invariant before trip `k`: what the tile may wait on, the table at a read share, the two
    scratch buffers at some contents, the two index buffers, the tile's output rows agreeing with `G` on the field's
    rows below `k` and with `g0` elsewhere, the three semaphores at zero, and what the tile owes. -/
def RIshape (j : ℕ) (Tpt : PosShare TreeShare → (S36x100000.Idx → Elt F .f32) → sProp 𝕄) (s1 s2 s3 : DmaSems sig S_)
    (O : CellTallies nD τ sig (HIx 1)) (W0 : Waits sig (HIx 1)) (q : PosShare TreeShare) (ft : S36x100000.Idx → Elt F .f32)
    (fa : Buf (Elt F) ((mIa).view.loc (thr L d))) (fb : Buf (Elt F) ((mIb).view.loc (thr L d)))
    (G g0 : Buf (Elt F) ((mO).view.loc (thr L d))) (k : ℕ) : sProp 𝕄 :=
  iprop(Transfers.MayWaits (thr L d) (none : HIx 1) O
    ∗ Tpt q ft
    ∗ (∃ fr, (mRow).view.loc (thr L d) ↦{fullShare} fr)
    ∗ (∃ fo, (mOch).view.loc (thr L d) ↦{fullShare} fo)
    ∗ ((mIa).view.loc (thr L d) ↦{fullShare} fa) ∗ ((mIb).view.loc (thr L d) ↦{fullShare} fb)
    ∗ (∃ g, ((mO).view.loc (thr L d) ↦[rowsSet (Cert.Spec.lo (wid L)) (Cert.Spec.hi (wid L))]{fullShare} g)
        ∗ ⌜∀ x ∈ rowsSet (Cert.Spec.lo (wid L)) (Cert.Spec.hi (wid L)),
            g x = if 36 * j + dlo (wid L) j ≤ (x 0).val ∧ (x 0).val < 36 * j + dlo (wid L) j + k then G x else g0 x⌝)
    ∗ semVal ((thr L d), SemLoc.dma s1.sem) 0
    ∗ semVal ((thr L d), SemLoc.dma s2.sem) 0
    ∗ semVal ((thr L d), SemLoc.dma s3.sem) 0
    ∗ ∃ W', owes (thr L d) O W' ∗ ⌜∀ p ∈ W', p ∈ W0 ∨ p.2 = none⌝)

/-- The field's rule from the loop's rule over its invariant `RI` (`hRI`: what the invariant is, before trip `k`). -/
theorem drule_of_rows (j : ℕ) (hj : j < 26) (Tpt : PosShare TreeShare → (S36x100000.Idx → Elt F .f32) → sProp 𝕄)
    (s1 s2 s3 : DmaSems sig S_) (l : Scf.Loop 32) (hok : l.OK) (body : Fin l.trips → BitVec 32 → PT (F := F) L (BitVec 32))
    (RI : CellTallies nD τ sig (HIx 1) → Waits sig (HIx 1) → PosShare TreeShare → (S36x100000.Idx → Elt F .f32)
        → Buf (Elt F) ((mIa).view.loc (thr L d)) → Buf (Elt F) ((mIb).view.loc (thr L d))
        → Buf (Elt F) ((mO).view.loc (thr L d)) → Buf (Elt F) ((mO).view.loc (thr L d)) → ℕ → BitVec 32 → sProp 𝕄)
    (hRI : ∀ O W0 q ft fa fb G g0 k acc, RI O W0 q ft fa fb G g0 k acc = RIshape (F := F) L d j Tpt s1 s2 s3 O W0 q ft fa fb G g0 k)
    (hrows : ∀ (O : CellTallies nD τ sig (HIx 1)) (W0 : Waits sig (HIx 1)) (q : PosShare TreeShare)
        (fx : S26x16384.Idx → BitVec 32) (ft : S36x100000.Idx → Elt F .f32)
        (fa : Buf (Elt F) ((mIa).view.loc (thr L d))) (fb : Buf (Elt F) ((mIb).view.loc (thr L d)))
        (G g0 : Buf (Elt F) ((mO).view.loc (thr L d))),
        (∀ y, (fx y).toNat < 100000) →
        (0 < l.trips → (∀ y : S8192.Idx, (mIa).view.read (Elt F) fa y = fx (ix2 ⟨j, hj⟩ ⟨(y 0).val, Nat.lt_of_lt_of_le (y 0).isLt (by decide)⟩))
            ∧ (∀ y : S8192.Idx, (mIb).view.read (Elt F) fb y = fx (ix2 ⟨j, hj⟩ ⟨(y 0).val + 8192, Nat.add_lt_add_right (y 0).isLt 8192⟩))) →
        (∀ x : S936x16384.Idx, 36 * j + dlo (wid L) j ≤ (x 0).val → (x 0).val < 36 * j + dlo (wid L) j + l.trips →
            G x = ft (ix2 ⟨(x 0).val % 36, Nat.mod_lt _ (by decide)⟩ ⟨(fx (ix2 ⟨j, hj⟩ (x 1))).toNat % 100000, Nat.mod_lt _ (by decide)⟩)) →
        ∀ {α : Type} (kk : BitVec 32 → PT (F := F) L α) (Q : α → sProp 𝕄),
          iprop(RI O W0 q ft fa fb G g0 0 0#32
              ∗ (∀ acc, RI O W0 q ft fa fb G g0 l.trips acc -∗ wp frame (wpE defs Variants.none (thr L d) none) Set.univ (kk acc) Q))
            ⊢ wp frame (wpE defs Variants.none (thr L d) none) Set.univ (Scf.Loop.for l hok 0#32 body >>= kk) Q) :
    DRule (F := F) L d defs j hj Tpt s1 s2 s3 l hok body := by
  intro α kk Q O W0 W q fx ft fr fo fa fb g0 hW hfx hidx
  refine BIBase.Entails.trans ?_ (hrows O W0 q fx ft fa fb (GV (F := F) j hj fx ft) g0 hfx ?hidx (fun x _ _ => rfl) kk Q)
  case hidx =>
    intro h
    obtain ⟨ha, hb⟩ := hidx h
    exact ⟨fun y => by rw [eq_ix1 y]; exact ha (y 0).val (y 0).isLt, fun y => by rw [eq_ix1 y]; exact hb (y 0).val (y 0).isLt⟩
  simp only [hRI, RIshape]
  iintro ⟨Hmw, Ht, Hr, Ho, Ha, Hb, Hg, Hs1, Hs2, Hs3, HO, Hk⟩
  isplitr [Hk]
  · isplitl [Hmw]; · iexact Hmw
    isplitl [Ht]; · iexact Ht
    isplitl [Hr]; · iexists fr; iexact Hr
    isplitl [Ho]; · iexists fo; iexact Ho
    isplitl [Ha]; · iexact Ha
    isplitl [Hb]; · iexact Hb
    isplitl [Hg]
    · iexists g0
      isplitl [Hg]; · iexact Hg
      ipureintro
      intro x _
      rw [if_neg (by omega)]
    isplitl [Hs1]; · iexact Hs1
    isplitl [Hs2]; · iexact Hs2
    isplitl [Hs3]; · iexact Hs3
    iexists W
    isplitl [HO]; · iexact HO
    ipureintro; exact hW
  · iintro %acc HI
    icases HI with ⟨Hmw, Ht, ⟨%fr', Hr⟩, ⟨%fo', Ho⟩, Ha, Hb, ⟨%g, Hg, %hg⟩, Hs1, Hs2, Hs3, ⟨%W', HO, %hW'⟩⟩
    ispecialize Hk $$ %acc %fr' %fo' %g %W' %hg %hW' Hmw Ht Hr Ho Ha Hb Hg Hs1 Hs2 Hs3 HO
    iexact Hk

end Cert.Proof.BodyRulesBits
-- ==== Proof.BodyRulesBits.lean ====
import proofs.«204037_g66941360275737_cont_sun_c4_657_24_alg».proof.Proof.BodyRowInstBits
import proofs.«204037_g66941360275737_cont_sun_c4_657_24_alg».proof.Proof.BodyRulesGenBits

/-!
# The 26 fields' loop rules

Each field's loop over the tile's rows, proved from its invariant, meets the rule the tile's run asks of it: the
invariant's shape is the one the bridge expects, by unfolding.
-/

noncomputable section

namespace Cert.Proof.BodyRulesBits

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts
open K0.R1.Facts₀ K0.R2.Facts₀ K0.R3.Facts₀ Shapes1.Facts₀
open Cert.UnitArith Cert.Kernel.UnitArithK
open Cert.Proof.BodyTopBits

variable {F : FTy → Type} [FloatOps F]

local notation "𝕄" => MT nD τ sig (HIx 1) (Elt F) ℕ BodyTopBits.UU ℕ

variable (L : grid0.Coords) (d : Dev nD) (defs : Defs nD τ sig (Elt F) Λ₀)

/-- Field 0: the rule its loop over the tile's rows meets. -/
theorem rule0 (w0 : BitVec 32) (w1 : BitVec 32) (w2 : BitVec 32) (w3 : BitVec 32) :
    DRule (F := F) L d defs 0 (by decide) (fun q ft => ((Memref.whole main_v1_scv : Memref sig .scVector .hbm S36x100000 .f32).view.loc (thr L d) ↦{q} ft)) cc0_scoped2 cc0_scoped3 cc0_scoped4 (k0_t1_loop L) (k0_t1_ok L)
      (Gen.k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 0 (by decide) (fun q ft => ((Memref.whole main_v1_scv : Memref sig .scVector .hbm S36x100000 .f32).view.loc (thr L d) ↦{q} ft)) cc0_scoped2 cc0_scoped3 cc0_scoped4 (k0_t1_loop L) (k0_t1_ok L) _
    (fun O W0 q ft fa fb G g0 k acc => Cert.Proof.BodyRowBits.rowsInv (F := F) ((L 0).castLE hcore0) ((L 1).castLE hsub0) d (Memref.whole main_v1_scv : Memref sig .scVector .hbm S36x100000 .f32)
      cc0_scoped2 cc0_scoped3 cc0_scoped4 ((mIa).view.loc (thr L d) ↦{fullShare} fa) ((mIb).view.loc (thr L d) ↦{fullShare} fb) O W0 q ft
      (rowsSet (Cert.Spec.lo (wid L)) (Cert.Spec.hi (wid L))) G g0 (36 * 0 + dlo (wid L) 0) k acc)
    (fun _ _ _ _ _ _ _ _ _ _ => rfl)
    (fun O W0 q fx ft fa fb G g0 hfx hidx hG => Cert.Proof.BodyRowBits.dinst_0 (F := F) L d defs w0 w1 w2 w3 O W0 q fx ft fa fb G g0 hfx hidx hG)

/-- Field 1: the rule its loop over the tile's rows meets. -/
theorem rule1 (w0 : BitVec 32) (w1 : BitVec 32) (w2 : BitVec 32) (w3 : BitVec 32) :
    DRule (F := F) L d defs 1 (by decide) (fun q ft => ((Memref.whole main_v2_scv : Memref sig .scVector .hbm S36x100000 .f32).view.loc (thr L d) ↦{q} ft)) cc0_scoped10 cc0_scoped11 cc0_scoped12 (k0_t7_loop L) (k0_t7_ok L)
      (Gen.k0_t7_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 1 (by decide) (fun q ft => ((Memref.whole main_v2_scv : Memref sig .scVector .hbm S36x100000 .f32).view.loc (thr L d) ↦{q} ft)) cc0_scoped10 cc0_scoped11 cc0_scoped12 (k0_t7_loop L) (k0_t7_ok L) _
    (fun O W0 q ft fa fb G g0 k acc => Cert.Proof.BodyRowBits.rowsInv (F := F) ((L 0).castLE hcore0) ((L 1).castLE hsub0) d (Memref.whole main_v2_scv : Memref sig .scVector .hbm S36x100000 .f32)
      cc0_scoped10 cc0_scoped11 cc0_scoped12 ((mIa).view.loc (thr L d) ↦{fullShare} fa) ((mIb).view.loc (thr L d) ↦{fullShare} fb) O W0 q ft
      (rowsSet (Cert.Spec.lo (wid L)) (Cert.Spec.hi (wid L))) G g0 (36 * 1 + dlo (wid L) 1) k acc)
    (fun _ _ _ _ _ _ _ _ _ _ => rfl)
    (fun O W0 q fx ft fa fb G g0 hfx hidx hG => Cert.Proof.BodyRowBits.dinst_1 (F := F) L d defs w0 w1 w2 w3 O W0 q fx ft fa fb G g0 hfx hidx hG)

/-- Field 2: the rule its loop over the tile's rows meets. -/
theorem rule2 (w0 : BitVec 32) (w1 : BitVec 32) (w2 : BitVec 32) (w3 : BitVec 32) (w4 : BitVec 32) :
    DRule (F := F) L d defs 2 (by decide) (fun q ft => ((Memref.whole main_v3_scv : Memref sig .scVector .hbm S36x100000 .f32).view.loc (thr L d) ↦{q} ft)) cc0_scoped18 cc0_scoped19 cc0_scoped20 (k0_t13_loop L) (k0_t13_ok L)
      (Gen.k0_t13_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 2 (by decide) (fun q ft => ((Memref.whole main_v3_scv : Memref sig .scVector .hbm S36x100000 .f32).view.loc (thr L d) ↦{q} ft)) cc0_scoped18 cc0_scoped19 cc0_scoped20 (k0_t13_loop L) (k0_t13_ok L) _
    (fun O W0 q ft fa fb G g0 k acc => Cert.Proof.BodyRowBits.rowsInv (F := F) ((L 0).castLE hcore0) ((L 1).castLE hsub0) d (Memref.whole main_v3_scv : Memref sig .scVector .hbm S36x100000 .f32)
      cc0_scoped18 cc0_scoped19 cc0_scoped20 ((mIa).view.loc (thr L d) ↦{fullShare} fa) ((mIb).view.loc (thr L d) ↦{fullShare} fb) O W0 q ft
      (rowsSet (Cert.Spec.lo (wid L)) (Cert.Spec.hi (wid L))) G g0 (36 * 2 + dlo (wid L) 2) k acc)
    (fun _ _ _ _ _ _ _ _ _ _ => rfl)
    (fun O W0 q fx ft fa fb G g0 hfx hidx hG => Cert.Proof.BodyRowBits.dinst_2 (F := F) L d defs w0 w1 w2 w3 w4 O W0 q fx ft fa fb G g0 hfx hidx hG)

/-- Field 3: the rule its loop over the tile's rows meets. -/
theorem rule3 (w0 : BitVec 32) (w1 : BitVec 32) (w2 : BitVec 32) (w3 : BitVec 32) (w4 : BitVec 32) :
    DRule (F := F) L d defs 3 (by decide) (fun q ft => ((Memref.whole main_v4_scv : Memref sig .scVector .hbm S36x100000 .f32).view.loc (thr L d) ↦{q} ft)) cc0_scoped26 cc0_scoped27 cc0_scoped28 (k0_t19_loop L) (k0_t19_ok L)
      (Gen.k0_t19_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 3 (by decide) (fun q ft => ((Memref.whole main_v4_scv : Memref sig .scVector .hbm S36x100000 .f32).view.loc (thr L d) ↦{q} ft)) cc0_scoped26 cc0_scoped27 cc0_scoped28 (k0_t19_loop L) (k0_t19_ok L) _
    (fun O W0 q ft fa fb G g0 k acc => Cert.Proof.BodyRowBits.rowsInv (F := F) ((L 0).castLE hcore0) ((L 1).castLE hsub0) d (Memref.whole main_v4_scv : Memref sig .scVector .hbm S36x100000 .f32)
      cc0_scoped26 cc0_scoped27 cc0_scoped28 ((mIa).view.loc (thr L d) ↦{fullShare} fa) ((mIb).view.loc (thr L d) ↦{fullShare} fb) O W0 q ft
      (rowsSet (Cert.Spec.lo (wid L)) (Cert.Spec.hi (wid L))) G g0 (36 * 3 + dlo (wid L) 3) k acc)
    (fun _ _ _ _ _ _ _ _ _ _ => rfl)
    (fun O W0 q fx ft fa fb G g0 hfx hidx hG => Cert.Proof.BodyRowBits.dinst_3 (F := F) L d defs w0 w1 w2 w3 w4 O W0 q fx ft fa fb G g0 hfx hidx hG)

/-- Field 4: the rule its loop over the tile's rows meets. -/
theorem rule4 (w0 : BitVec 32) (w1 : BitVec 32) (w2 : BitVec 32) (w3 : BitVec 32) (w4 : BitVec 32) :
    DRule (F := F) L d defs 4 (by decide) (fun q ft => ((Memref.whole main_v5_scv : Memref sig .scVector .hbm S36x100000 .f32).view.loc (thr L d) ↦{q} ft)) cc0_scoped34 cc0_scoped35 cc0_scoped36 (k0_t25_loop L) (k0_t25_ok L)
      (Gen.k0_t25_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 4 (by decide) (fun q ft => ((Memref.whole main_v5_scv : Memref sig .scVector .hbm S36x100000 .f32).view.loc (thr L d) ↦{q} ft)) cc0_scoped34 cc0_scoped35 cc0_scoped36 (k0_t25_loop L) (k0_t25_ok L) _
    (fun O W0 q ft fa fb G g0 k acc => Cert.Proof.BodyRowBits.rowsInv (F := F) ((L 0).castLE hcore0) ((L 1).castLE hsub0) d (Memref.whole main_v5_scv : Memref sig .scVector .hbm S36x100000 .f32)
      cc0_scoped34 cc0_scoped35 cc0_scoped36 ((mIa).view.loc (thr L d) ↦{fullShare} fa) ((mIb).view.loc (thr L d) ↦{fullShare} fb) O W0 q ft
      (rowsSet (Cert.Spec.lo (wid L)) (Cert.Spec.hi (wid L))) G g0 (36 * 4 + dlo (wid L) 4) k acc)
    (fun _ _ _ _ _ _ _ _ _ _ => rfl)
    (fun O W0 q fx ft fa fb G g0 hfx hidx hG => Cert.Proof.BodyRowBits.dinst_4 (F := F) L d defs w0 w1 w2 w3 w4 O W0 q fx ft fa fb G g0 hfx hidx hG)

/-- Field 5: the rule its loop over the tile's rows meets. -/
theorem rule5 (w0 : BitVec 32) (w1 : BitVec 32) (w2 : BitVec 32) (w3 : BitVec 32) (w4 : BitVec 32) (w5 : BitVec 32) :
    DRule (F := F) L d defs 5 (by decide) (fun q ft => ((Memref.whole main_v6_scv : Memref sig .scVector .hbm S36x100000 .f32).view.loc (thr L d) ↦{q} ft)) cc0_scoped42 cc0_scoped43 cc0_scoped44 (k0_t31_loop L) (k0_t31_ok L)
      (Gen.k0_t31_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 5 (by decide) (fun q ft => ((Memref.whole main_v6_scv : Memref sig .scVector .hbm S36x100000 .f32).view.loc (thr L d) ↦{q} ft)) cc0_scoped42 cc0_scoped43 cc0_scoped44 (k0_t31_loop L) (k0_t31_ok L) _
    (fun O W0 q ft fa fb G g0 k acc => Cert.Proof.BodyRowBits.rowsInv (F := F) ((L 0).castLE hcore0) ((L 1).castLE hsub0) d (Memref.whole main_v6_scv : Memref sig .scVector .hbm S36x100000 .f32)
      cc0_scoped42 cc0_scoped43 cc0_scoped44 ((mIa).view.loc (thr L d) ↦{fullShare} fa) ((mIb).view.loc (thr L d) ↦{fullShare} fb) O W0 q ft
      (rowsSet (Cert.Spec.lo (wid L)) (Cert.Spec.hi (wid L))) G g0 (36 * 5 + dlo (wid L) 5) k acc)
    (fun _ _ _ _ _ _ _ _ _ _ => rfl)
    (fun O W0 q fx ft fa fb G g0 hfx hidx hG => Cert.Proof.BodyRowBits.dinst_5 (F := F) L d defs w0 w1 w2 w3 w4 w5 O W0 q fx ft fa fb G g0 hfx hidx hG)

/-- Field 6: the rule its loop over the tile's rows meets. -/
theorem rule6 (w0 : BitVec 32) (w1 : BitVec 32) (w2 : BitVec 32) (w3 : BitVec 32) (w4 : BitVec 1) :
    DRule (F := F) L d defs 6 (by decide) (fun q ft => ((Memref.whole main_v7_scv : Memref sig .scVector .hbm S36x100000 .f32).view.loc (thr L d) ↦{q} ft)) cc0_scoped50 cc0_scoped51 cc0_scoped52 (k0_t37_loop L) (k0_t37_ok L)
      (Gen.k0_t37_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 6 (by decide) (fun q ft => ((Memref.whole main_v7_scv : Memref sig .scVector .hbm S36x100000 .f32).view.loc (thr L d) ↦{q} ft)) cc0_scoped50 cc0_scoped51 cc0_scoped52 (k0_t37_loop L) (k0_t37_ok L) _
    (fun O W0 q ft fa fb G g0 k acc => Cert.Proof.BodyRowBits.rowsInv (F := F) ((L 0).castLE hcore0) ((L 1).castLE hsub0) d (Memref.whole main_v7_scv : Memref sig .scVector .hbm S36x100000 .f32)
      cc0_scoped50 cc0_scoped51 cc0_scoped52 ((mIa).view.loc (thr L d) ↦{fullShare} fa) ((mIb).view.loc (thr L d) ↦{fullShare} fb) O W0 q ft
      (rowsSet (Cert.Spec.lo (wid L)) (Cert.Spec.hi (wid L))) G g0 (36 * 6 + dlo (wid L) 6) k acc)
    (fun _ _ _ _ _ _ _ _ _ _ => rfl)
    (fun O W0 q fx ft fa fb G g0 hfx hidx hG => Cert.Proof.BodyRowBits.dinst_6 (F := F) L d defs w0 w1 w2 w3 w4 O W0 q fx ft fa fb G g0 hfx hidx hG)

/-- Field 7: the rule its loop over the tile's rows meets. -/
theorem rule7 (w0 : BitVec 32) (w1 : BitVec 32) (w2 : BitVec 32) (w3 : BitVec 32) (w4 : BitVec 1) (w5 : BitVec 32) :
    DRule (F := F) L d defs 7 (by decide) (fun q ft => ((Memref.whole main_v8_scv : Memref sig .scVector .hbm S36x100000 .f32).view.loc (thr L d) ↦{q} ft)) cc0_scoped58 cc0_scoped59 cc0_scoped60 (k0_t43_loop L) (k0_t43_ok L)
      (Gen.k0_t43_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 7 (by decide) (fun q ft => ((Memref.whole main_v8_scv : Memref sig .scVector .hbm S36x100000 .f32).view.loc (thr L d) ↦{q} ft)) cc0_scoped58 cc0_scoped59 cc0_scoped60 (k0_t43_loop L) (k0_t43_ok L) _
    (fun O W0 q ft fa fb G g0 k acc => Cert.Proof.BodyRowBits.rowsInv (F := F) ((L 0).castLE hcore0) ((L 1).castLE hsub0) d (Memref.whole main_v8_scv : Memref sig .scVector .hbm S36x100000 .f32)
      cc0_scoped58 cc0_scoped59 cc0_scoped60 ((mIa).view.loc (thr L d) ↦{fullShare} fa) ((mIb).view.loc (thr L d) ↦{fullShare} fb) O W0 q ft
      (rowsSet (Cert.Spec.lo (wid L)) (Cert.Spec.hi (wid L))) G g0 (36 * 7 + dlo (wid L) 7) k acc)
    (fun _ _ _ _ _ _ _ _ _ _ => rfl)
    (fun O W0 q fx ft fa fb G g0 hfx hidx hG => Cert.Proof.BodyRowBits.dinst_7 (F := F) L d defs w0 w1 w2 w3 w4 w5 O W0 q fx ft fa fb G g0 hfx hidx hG)

/-- Field 8: the rule its loop over the tile's rows meets. -/
theorem rule8 (w0 : BitVec 32) (w1 : BitVec 32) (w2 : BitVec 32) (w3 : BitVec 32) :
    DRule (F := F) L d defs 8 (by decide) (fun q ft => ((Memref.whole main_v9_scv : Memref sig .scVector .hbm S36x100000 .f32).view.loc (thr L d) ↦{q} ft)) cc0_scoped66 cc0_scoped67 cc0_scoped68 (k0_t49_loop L) (k0_t49_ok L)
      (Gen.k0_t49_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 8 (by decide) (fun q ft => ((Memref.whole main_v9_scv : Memref sig .scVector .hbm S36x100000 .f32).view.loc (thr L d) ↦{q} ft)) cc0_scoped66 cc0_scoped67 cc0_scoped68 (k0_t49_loop L) (k0_t49_ok L) _
    (fun O W0 q ft fa fb G g0 k acc => Cert.Proof.BodyRowBits.rowsInv (F := F) ((L 0).castLE hcore0) ((L 1).castLE hsub0) d (Memref.whole main_v9_scv : Memref sig .scVector .hbm S36x100000 .f32)
      cc0_scoped66 cc0_scoped67 cc0_scoped68 ((mIa).view.loc (thr L d) ↦{fullShare} fa) ((mIb).view.loc (thr L d) ↦{fullShare} fb) O W0 q ft
      (rowsSet (Cert.Spec.lo (wid L)) (Cert.Spec.hi (wid L))) G g0 (36 * 8 + dlo (wid L) 8) k acc)
    (fun _ _ _ _ _ _ _ _ _ _ => rfl)
    (fun O W0 q fx ft fa fb G g0 hfx hidx hG => Cert.Proof.BodyRowBits.dinst_8 (F := F) L d defs w0 w1 w2 w3 O W0 q fx ft fa fb G g0 hfx hidx hG)

/-- Field 9: the rule its loop over the tile's rows meets. -/
theorem rule9 (w0 : BitVec 32) (w1 : BitVec 32) (w2 : BitVec 32) (w3 : BitVec 32) (w4 : BitVec 32) :
    DRule (F := F) L d defs 9 (by decide) (fun q ft => ((Memref.whole main_v10_scv : Memref sig .scVector .hbm S36x100000 .f32).view.loc (thr L d) ↦{q} ft)) cc0_scoped74 cc0_scoped75 cc0_scoped76 (k0_t55_loop L) (k0_t55_ok L)
      (Gen.k0_t55_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 9 (by decide) (fun q ft => ((Memref.whole main_v10_scv : Memref sig .scVector .hbm S36x100000 .f32).view.loc (thr L d) ↦{q} ft)) cc0_scoped74 cc0_scoped75 cc0_scoped76 (k0_t55_loop L) (k0_t55_ok L) _
    (fun O W0 q ft fa fb G g0 k acc => Cert.Proof.BodyRowBits.rowsInv (F := F) ((L 0).castLE hcore0) ((L 1).castLE hsub0) d (Memref.whole main_v10_scv : Memref sig .scVector .hbm S36x100000 .f32)
      cc0_scoped74 cc0_scoped75 cc0_scoped76 ((mIa).view.loc (thr L d) ↦{fullShare} fa) ((mIb).view.loc (thr L d) ↦{fullShare} fb) O W0 q ft
      (rowsSet (Cert.Spec.lo (wid L)) (Cert.Spec.hi (wid L))) G g0 (36 * 9 + dlo (wid L) 9) k acc)
    (fun _ _ _ _ _ _ _ _ _ _ => rfl)
    (fun O W0 q fx ft fa fb G g0 hfx hidx hG => Cert.Proof.BodyRowBits.dinst_9 (F := F) L d defs w0 w1 w2 w3 w4 O W0 q fx ft fa fb G g0 hfx hidx hG)

/-- Field 10: the rule its loop over the tile's rows meets. -/
theorem rule10 (w0 : BitVec 32) (w1 : BitVec 32) (w2 : BitVec 32) (w3 : BitVec 32) (w4 : BitVec 32) (w5 : BitVec 32) :
    DRule (F := F) L d defs 10 (by decide) (fun q ft => ((Memref.whole main_v11_scv : Memref sig .scVector .hbm S36x100000 .f32).view.loc (thr L d) ↦{q} ft)) cc0_scoped82 cc0_scoped83 cc0_scoped84 (k0_t61_loop L) (k0_t61_ok L)
      (Gen.k0_t61_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 10 (by decide) (fun q ft => ((Memref.whole main_v11_scv : Memref sig .scVector .hbm S36x100000 .f32).view.loc (thr L d) ↦{q} ft)) cc0_scoped82 cc0_scoped83 cc0_scoped84 (k0_t61_loop L) (k0_t61_ok L) _
    (fun O W0 q ft fa fb G g0 k acc => Cert.Proof.BodyRowBits.rowsInv (F := F) ((L 0).castLE hcore0) ((L 1).castLE hsub0) d (Memref.whole main_v11_scv : Memref sig .scVector .hbm S36x100000 .f32)
      cc0_scoped82 cc0_scoped83 cc0_scoped84 ((mIa).view.loc (thr L d) ↦{fullShare} fa) ((mIb).view.loc (thr L d) ↦{fullShare} fb) O W0 q ft
      (rowsSet (Cert.Spec.lo (wid L)) (Cert.Spec.hi (wid L))) G g0 (36 * 10 + dlo (wid L) 10) k acc)
    (fun _ _ _ _ _ _ _ _ _ _ => rfl)
    (fun O W0 q fx ft fa fb G g0 hfx hidx hG => Cert.Proof.BodyRowBits.dinst_10 (F := F) L d defs w0 w1 w2 w3 w4 w5 O W0 q fx ft fa fb G g0 hfx hidx hG)

/-- Field 11: the rule its loop over the tile's rows meets. -/
theorem rule11 (w0 : BitVec 32) (w1 : BitVec 32) (w2 : BitVec 32) (w3 : BitVec 32) (w4 : BitVec 32) (w5 : BitVec 32) (w6 : BitVec 32) :
    DRule (F := F) L d defs 11 (by decide) (fun q ft => ((Memref.whole main_v12_scv : Memref sig .scVector .hbm S36x100000 .f32).view.loc (thr L d) ↦{q} ft)) cc0_scoped90 cc0_scoped91 cc0_scoped92 (k0_t67_loop L) (k0_t67_ok L)
      (Gen.k0_t67_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6) :=
  drule_of_rows (F := F) L d defs 11 (by decide) (fun q ft => ((Memref.whole main_v12_scv : Memref sig .scVector .hbm S36x100000 .f32).view.loc (thr L d) ↦{q} ft)) cc0_scoped90 cc0_scoped91 cc0_scoped92 (k0_t67_loop L) (k0_t67_ok L) _
    (fun O W0 q ft fa fb G g0 k acc => Cert.Proof.BodyRowBits.rowsInv (F := F) ((L 0).castLE hcore0) ((L 1).castLE hsub0) d (Memref.whole main_v12_scv : Memref sig .scVector .hbm S36x100000 .f32)
      cc0_scoped90 cc0_scoped91 cc0_scoped92 ((mIa).view.loc (thr L d) ↦{fullShare} fa) ((mIb).view.loc (thr L d) ↦{fullShare} fb) O W0 q ft
      (rowsSet (Cert.Spec.lo (wid L)) (Cert.Spec.hi (wid L))) G g0 (36 * 11 + dlo (wid L) 11) k acc)
    (fun _ _ _ _ _ _ _ _ _ _ => rfl)
    (fun O W0 q fx ft fa fb G g0 hfx hidx hG => Cert.Proof.BodyRowBits.dinst_11 (F := F) L d defs w0 w1 w2 w3 w4 w5 w6 O W0 q fx ft fa fb G g0 hfx hidx hG)

/-- Field 12: the rule its loop over the tile's rows meets. -/
theorem rule12 (w0 : BitVec 32) (w1 : BitVec 32) (w2 : BitVec 32) (w3 : BitVec 32) (w4 : BitVec 32) (w5 : BitVec 32) :
    DRule (F := F) L d defs 12 (by decide) (fun q ft => ((Memref.whole main_v13_scv : Memref sig .scVector .hbm S36x100000 .f32).view.loc (thr L d) ↦{q} ft)) cc0_scoped98 cc0_scoped99 cc0_scoped100 (k0_t73_loop L) (k0_t73_ok L)
      (Gen.k0_t73_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 12 (by decide) (fun q ft => ((Memref.whole main_v13_scv : Memref sig .scVector .hbm S36x100000 .f32).view.loc (thr L d) ↦{q} ft)) cc0_scoped98 cc0_scoped99 cc0_scoped100 (k0_t73_loop L) (k0_t73_ok L) _
    (fun O W0 q ft fa fb G g0 k acc => Cert.Proof.BodyRowBits.rowsInv (F := F) ((L 0).castLE hcore0) ((L 1).castLE hsub0) d (Memref.whole main_v13_scv : Memref sig .scVector .hbm S36x100000 .f32)
      cc0_scoped98 cc0_scoped99 cc0_scoped100 ((mIa).view.loc (thr L d) ↦{fullShare} fa) ((mIb).view.loc (thr L d) ↦{fullShare} fb) O W0 q ft
      (rowsSet (Cert.Spec.lo (wid L)) (Cert.Spec.hi (wid L))) G g0 (36 * 12 + dlo (wid L) 12) k acc)
    (fun _ _ _ _ _ _ _ _ _ _ => rfl)
    (fun O W0 q fx ft fa fb G g0 hfx hidx hG => Cert.Proof.BodyRowBits.dinst_12 (F := F) L d defs w0 w1 w2 w3 w4 w5 O W0 q fx ft fa fb G g0 hfx hidx hG)

/-- Field 13: the rule its loop over the tile's rows meets. -/
theorem rule13 (w0 : BitVec 32) (w1 : BitVec 32) (w2 : BitVec 32) (w3 : BitVec 32) (w4 : BitVec 32) (w5 : BitVec 32) (w6 : BitVec 32) :
    DRule (F := F) L d defs 13 (by decide) (fun q ft => ((Memref.whole main_v14_scv : Memref sig .scVector .hbm S36x100000 .f32).view.loc (thr L d) ↦{q} ft)) cc0_scoped106 cc0_scoped107 cc0_scoped108 (k0_t79_loop L) (k0_t79_ok L)
      (Gen.k0_t79_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6) :=
  drule_of_rows (F := F) L d defs 13 (by decide) (fun q ft => ((Memref.whole main_v14_scv : Memref sig .scVector .hbm S36x100000 .f32).view.loc (thr L d) ↦{q} ft)) cc0_scoped106 cc0_scoped107 cc0_scoped108 (k0_t79_loop L) (k0_t79_ok L) _
    (fun O W0 q ft fa fb G g0 k acc => Cert.Proof.BodyRowBits.rowsInv (F := F) ((L 0).castLE hcore0) ((L 1).castLE hsub0) d (Memref.whole main_v14_scv : Memref sig .scVector .hbm S36x100000 .f32)
      cc0_scoped106 cc0_scoped107 cc0_scoped108 ((mIa).view.loc (thr L d) ↦{fullShare} fa) ((mIb).view.loc (thr L d) ↦{fullShare} fb) O W0 q ft
      (rowsSet (Cert.Spec.lo (wid L)) (Cert.Spec.hi (wid L))) G g0 (36 * 13 + dlo (wid L) 13) k acc)
    (fun _ _ _ _ _ _ _ _ _ _ => rfl)
    (fun O W0 q fx ft fa fb G g0 hfx hidx hG => Cert.Proof.BodyRowBits.dinst_13 (F := F) L d defs w0 w1 w2 w3 w4 w5 w6 O W0 q fx ft fa fb G g0 hfx hidx hG)

/-- Field 14: the rule its loop over the tile's rows meets. -/
theorem rule14 (w0 : BitVec 32) (w1 : BitVec 32) (w2 : BitVec 32) (w3 : BitVec 32) (w4 : BitVec 32) (w5 : BitVec 32) (w6 : BitVec 32) :
    DRule (F := F) L d defs 14 (by decide) (fun q ft => ((Memref.whole main_v15_scv : Memref sig .scVector .hbm S36x100000 .f32).view.loc (thr L d) ↦{q} ft)) cc0_scoped114 cc0_scoped115 cc0_scoped116 (k0_t85_loop L) (k0_t85_ok L)
      (Gen.k0_t85_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5 w6) :=
  drule_of_rows (F := F) L d defs 14 (by decide) (fun q ft => ((Memref.whole main_v15_scv : Memref sig .scVector .hbm S36x100000 .f32).view.loc (thr L d) ↦{q} ft)) cc0_scoped114 cc0_scoped115 cc0_scoped116 (k0_t85_loop L) (k0_t85_ok L) _
    (fun O W0 q ft fa fb G g0 k acc => Cert.Proof.BodyRowBits.rowsInv (F := F) ((L 0).castLE hcore0) ((L 1).castLE hsub0) d (Memref.whole main_v15_scv : Memref sig .scVector .hbm S36x100000 .f32)
      cc0_scoped114 cc0_scoped115 cc0_scoped116 ((mIa).view.loc (thr L d) ↦{fullShare} fa) ((mIb).view.loc (thr L d) ↦{fullShare} fb) O W0 q ft
      (rowsSet (Cert.Spec.lo (wid L)) (Cert.Spec.hi (wid L))) G g0 (36 * 14 + dlo (wid L) 14) k acc)
    (fun _ _ _ _ _ _ _ _ _ _ => rfl)
    (fun O W0 q fx ft fa fb G g0 hfx hidx hG => Cert.Proof.BodyRowBits.dinst_14 (F := F) L d defs w0 w1 w2 w3 w4 w5 w6 O W0 q fx ft fa fb G g0 hfx hidx hG)

/-- Field 15: the rule its loop over the tile's rows meets. -/
theorem rule15 (w0 : BitVec 32) (w1 : BitVec 32) (w2 : BitVec 32) (w3 : BitVec 32) :
    DRule (F := F) L d defs 15 (by decide) (fun q ft => ((Memref.whole main_v16_scv : Memref sig .scVector .hbm S36x100000 .f32).view.loc (thr L d) ↦{q} ft)) cc0_scoped122 cc0_scoped123 cc0_scoped124 (k0_t91_loop L) (k0_t91_ok L)
      (Gen.k0_t91_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 15 (by decide) (fun q ft => ((Memref.whole main_v16_scv : Memref sig .scVector .hbm S36x100000 .f32).view.loc (thr L d) ↦{q} ft)) cc0_scoped122 cc0_scoped123 cc0_scoped124 (k0_t91_loop L) (k0_t91_ok L) _
    (fun O W0 q ft fa fb G g0 k acc => Cert.Proof.BodyRowBits.rowsInv (F := F) ((L 0).castLE hcore0) ((L 1).castLE hsub0) d (Memref.whole main_v16_scv : Memref sig .scVector .hbm S36x100000 .f32)
      cc0_scoped122 cc0_scoped123 cc0_scoped124 ((mIa).view.loc (thr L d) ↦{fullShare} fa) ((mIb).view.loc (thr L d) ↦{fullShare} fb) O W0 q ft
      (rowsSet (Cert.Spec.lo (wid L)) (Cert.Spec.hi (wid L))) G g0 (36 * 15 + dlo (wid L) 15) k acc)
    (fun _ _ _ _ _ _ _ _ _ _ => rfl)
    (fun O W0 q fx ft fa fb G g0 hfx hidx hG => Cert.Proof.BodyRowBits.dinst_15 (F := F) L d defs w0 w1 w2 w3 O W0 q fx ft fa fb G g0 hfx hidx hG)

/-- Field 16: the rule its loop over the tile's rows meets. -/
theorem rule16 (w0 : BitVec 32) (w1 : BitVec 32) (w2 : BitVec 32) (w3 : BitVec 32) :
    DRule (F := F) L d defs 16 (by decide) (fun q ft => ((Memref.whole main_v17_scv : Memref sig .scVector .hbm S36x100000 .f32).view.loc (thr L d) ↦{q} ft)) cc0_scoped130 cc0_scoped131 cc0_scoped132 (k0_t97_loop L) (k0_t97_ok L)
      (Gen.k0_t97_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 16 (by decide) (fun q ft => ((Memref.whole main_v17_scv : Memref sig .scVector .hbm S36x100000 .f32).view.loc (thr L d) ↦{q} ft)) cc0_scoped130 cc0_scoped131 cc0_scoped132 (k0_t97_loop L) (k0_t97_ok L) _
    (fun O W0 q ft fa fb G g0 k acc => Cert.Proof.BodyRowBits.rowsInv (F := F) ((L 0).castLE hcore0) ((L 1).castLE hsub0) d (Memref.whole main_v17_scv : Memref sig .scVector .hbm S36x100000 .f32)
      cc0_scoped130 cc0_scoped131 cc0_scoped132 ((mIa).view.loc (thr L d) ↦{fullShare} fa) ((mIb).view.loc (thr L d) ↦{fullShare} fb) O W0 q ft
      (rowsSet (Cert.Spec.lo (wid L)) (Cert.Spec.hi (wid L))) G g0 (36 * 16 + dlo (wid L) 16) k acc)
    (fun _ _ _ _ _ _ _ _ _ _ => rfl)
    (fun O W0 q fx ft fa fb G g0 hfx hidx hG => Cert.Proof.BodyRowBits.dinst_16 (F := F) L d defs w0 w1 w2 w3 O W0 q fx ft fa fb G g0 hfx hidx hG)

/-- Field 17: the rule its loop over the tile's rows meets. -/
theorem rule17 (w0 : BitVec 32) (w1 : BitVec 32) (w2 : BitVec 32) (w3 : BitVec 32) (w4 : BitVec 32) :
    DRule (F := F) L d defs 17 (by decide) (fun q ft => ((Memref.whole main_v18_scv : Memref sig .scVector .hbm S36x100000 .f32).view.loc (thr L d) ↦{q} ft)) cc0_scoped138 cc0_scoped139 cc0_scoped140 (k0_t103_loop L) (k0_t103_ok L)
      (Gen.k0_t103_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 17 (by decide) (fun q ft => ((Memref.whole main_v18_scv : Memref sig .scVector .hbm S36x100000 .f32).view.loc (thr L d) ↦{q} ft)) cc0_scoped138 cc0_scoped139 cc0_scoped140 (k0_t103_loop L) (k0_t103_ok L) _
    (fun O W0 q ft fa fb G g0 k acc => Cert.Proof.BodyRowBits.rowsInv (F := F) ((L 0).castLE hcore0) ((L 1).castLE hsub0) d (Memref.whole main_v18_scv : Memref sig .scVector .hbm S36x100000 .f32)
      cc0_scoped138 cc0_scoped139 cc0_scoped140 ((mIa).view.loc (thr L d) ↦{fullShare} fa) ((mIb).view.loc (thr L d) ↦{fullShare} fb) O W0 q ft
      (rowsSet (Cert.Spec.lo (wid L)) (Cert.Spec.hi (wid L))) G g0 (36 * 17 + dlo (wid L) 17) k acc)
    (fun _ _ _ _ _ _ _ _ _ _ => rfl)
    (fun O W0 q fx ft fa fb G g0 hfx hidx hG => Cert.Proof.BodyRowBits.dinst_17 (F := F) L d defs w0 w1 w2 w3 w4 O W0 q fx ft fa fb G g0 hfx hidx hG)

/-- Field 18: the rule its loop over the tile's rows meets. -/
theorem rule18 (w0 : BitVec 32) (w1 : BitVec 32) (w2 : BitVec 32) (w3 : BitVec 32) (w4 : BitVec 32) :
    DRule (F := F) L d defs 18 (by decide) (fun q ft => ((Memref.whole main_v19_scv : Memref sig .scVector .hbm S36x100000 .f32).view.loc (thr L d) ↦{q} ft)) cc0_scoped146 cc0_scoped147 cc0_scoped148 (k0_t109_loop L) (k0_t109_ok L)
      (Gen.k0_t109_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 18 (by decide) (fun q ft => ((Memref.whole main_v19_scv : Memref sig .scVector .hbm S36x100000 .f32).view.loc (thr L d) ↦{q} ft)) cc0_scoped146 cc0_scoped147 cc0_scoped148 (k0_t109_loop L) (k0_t109_ok L) _
    (fun O W0 q ft fa fb G g0 k acc => Cert.Proof.BodyRowBits.rowsInv (F := F) ((L 0).castLE hcore0) ((L 1).castLE hsub0) d (Memref.whole main_v19_scv : Memref sig .scVector .hbm S36x100000 .f32)
      cc0_scoped146 cc0_scoped147 cc0_scoped148 ((mIa).view.loc (thr L d) ↦{fullShare} fa) ((mIb).view.loc (thr L d) ↦{fullShare} fb) O W0 q ft
      (rowsSet (Cert.Spec.lo (wid L)) (Cert.Spec.hi (wid L))) G g0 (36 * 18 + dlo (wid L) 18) k acc)
    (fun _ _ _ _ _ _ _ _ _ _ => rfl)
    (fun O W0 q fx ft fa fb G g0 hfx hidx hG => Cert.Proof.BodyRowBits.dinst_18 (F := F) L d defs w0 w1 w2 w3 w4 O W0 q fx ft fa fb G g0 hfx hidx hG)

/-- Field 19: the rule its loop over the tile's rows meets. -/
theorem rule19 (w0 : BitVec 32) (w1 : BitVec 32) (w2 : BitVec 32) (w3 : BitVec 32) (w4 : BitVec 32) :
    DRule (F := F) L d defs 19 (by decide) (fun q ft => ((Memref.whole main_v20_scv : Memref sig .scVector .hbm S36x100000 .f32).view.loc (thr L d) ↦{q} ft)) cc0_scoped154 cc0_scoped155 cc0_scoped156 (k0_t115_loop L) (k0_t115_ok L)
      (Gen.k0_t115_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 19 (by decide) (fun q ft => ((Memref.whole main_v20_scv : Memref sig .scVector .hbm S36x100000 .f32).view.loc (thr L d) ↦{q} ft)) cc0_scoped154 cc0_scoped155 cc0_scoped156 (k0_t115_loop L) (k0_t115_ok L) _
    (fun O W0 q ft fa fb G g0 k acc => Cert.Proof.BodyRowBits.rowsInv (F := F) ((L 0).castLE hcore0) ((L 1).castLE hsub0) d (Memref.whole main_v20_scv : Memref sig .scVector .hbm S36x100000 .f32)
      cc0_scoped154 cc0_scoped155 cc0_scoped156 ((mIa).view.loc (thr L d) ↦{fullShare} fa) ((mIb).view.loc (thr L d) ↦{fullShare} fb) O W0 q ft
      (rowsSet (Cert.Spec.lo (wid L)) (Cert.Spec.hi (wid L))) G g0 (36 * 19 + dlo (wid L) 19) k acc)
    (fun _ _ _ _ _ _ _ _ _ _ => rfl)
    (fun O W0 q fx ft fa fb G g0 hfx hidx hG => Cert.Proof.BodyRowBits.dinst_19 (F := F) L d defs w0 w1 w2 w3 w4 O W0 q fx ft fa fb G g0 hfx hidx hG)

/-- Field 20: the rule its loop over the tile's rows meets. -/
theorem rule20 (w0 : BitVec 32) (w1 : BitVec 32) (w2 : BitVec 32) (w3 : BitVec 32) (w4 : BitVec 32) (w5 : BitVec 32) :
    DRule (F := F) L d defs 20 (by decide) (fun q ft => ((Memref.whole main_v21_scv : Memref sig .scVector .hbm S36x100000 .f32).view.loc (thr L d) ↦{q} ft)) cc0_scoped162 cc0_scoped163 cc0_scoped164 (k0_t121_loop L) (k0_t121_ok L)
      (Gen.k0_t121_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 20 (by decide) (fun q ft => ((Memref.whole main_v21_scv : Memref sig .scVector .hbm S36x100000 .f32).view.loc (thr L d) ↦{q} ft)) cc0_scoped162 cc0_scoped163 cc0_scoped164 (k0_t121_loop L) (k0_t121_ok L) _
    (fun O W0 q ft fa fb G g0 k acc => Cert.Proof.BodyRowBits.rowsInv (F := F) ((L 0).castLE hcore0) ((L 1).castLE hsub0) d (Memref.whole main_v21_scv : Memref sig .scVector .hbm S36x100000 .f32)
      cc0_scoped162 cc0_scoped163 cc0_scoped164 ((mIa).view.loc (thr L d) ↦{fullShare} fa) ((mIb).view.loc (thr L d) ↦{fullShare} fb) O W0 q ft
      (rowsSet (Cert.Spec.lo (wid L)) (Cert.Spec.hi (wid L))) G g0 (36 * 20 + dlo (wid L) 20) k acc)
    (fun _ _ _ _ _ _ _ _ _ _ => rfl)
    (fun O W0 q fx ft fa fb G g0 hfx hidx hG => Cert.Proof.BodyRowBits.dinst_20 (F := F) L d defs w0 w1 w2 w3 w4 w5 O W0 q fx ft fa fb G g0 hfx hidx hG)

/-- Field 21: the rule its loop over the tile's rows meets. -/
theorem rule21 (w0 : BitVec 32) (w1 : BitVec 32) (w2 : BitVec 32) (w3 : BitVec 32) (w4 : BitVec 1) :
    DRule (F := F) L d defs 21 (by decide) (fun q ft => ((Memref.whole main_v22_scv : Memref sig .scVector .hbm S36x100000 .f32).view.loc (thr L d) ↦{q} ft)) cc0_scoped170 cc0_scoped171 cc0_scoped172 (k0_t127_loop L) (k0_t127_ok L)
      (Gen.k0_t127_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 21 (by decide) (fun q ft => ((Memref.whole main_v22_scv : Memref sig .scVector .hbm S36x100000 .f32).view.loc (thr L d) ↦{q} ft)) cc0_scoped170 cc0_scoped171 cc0_scoped172 (k0_t127_loop L) (k0_t127_ok L) _
    (fun O W0 q ft fa fb G g0 k acc => Cert.Proof.BodyRowBits.rowsInv (F := F) ((L 0).castLE hcore0) ((L 1).castLE hsub0) d (Memref.whole main_v22_scv : Memref sig .scVector .hbm S36x100000 .f32)
      cc0_scoped170 cc0_scoped171 cc0_scoped172 ((mIa).view.loc (thr L d) ↦{fullShare} fa) ((mIb).view.loc (thr L d) ↦{fullShare} fb) O W0 q ft
      (rowsSet (Cert.Spec.lo (wid L)) (Cert.Spec.hi (wid L))) G g0 (36 * 21 + dlo (wid L) 21) k acc)
    (fun _ _ _ _ _ _ _ _ _ _ => rfl)
    (fun O W0 q fx ft fa fb G g0 hfx hidx hG => Cert.Proof.BodyRowBits.dinst_21 (F := F) L d defs w0 w1 w2 w3 w4 O W0 q fx ft fa fb G g0 hfx hidx hG)

/-- Field 22: the rule its loop over the tile's rows meets. -/
theorem rule22 (w0 : BitVec 32) (w1 : BitVec 32) (w2 : BitVec 32) (w3 : BitVec 32) (w4 : BitVec 1) (w5 : BitVec 32) :
    DRule (F := F) L d defs 22 (by decide) (fun q ft => ((Memref.whole main_v23_scv : Memref sig .scVector .hbm S36x100000 .f32).view.loc (thr L d) ↦{q} ft)) cc0_scoped178 cc0_scoped179 cc0_scoped180 (k0_t133_loop L) (k0_t133_ok L)
      (Gen.k0_t133_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4 w5) :=
  drule_of_rows (F := F) L d defs 22 (by decide) (fun q ft => ((Memref.whole main_v23_scv : Memref sig .scVector .hbm S36x100000 .f32).view.loc (thr L d) ↦{q} ft)) cc0_scoped178 cc0_scoped179 cc0_scoped180 (k0_t133_loop L) (k0_t133_ok L) _
    (fun O W0 q ft fa fb G g0 k acc => Cert.Proof.BodyRowBits.rowsInv (F := F) ((L 0).castLE hcore0) ((L 1).castLE hsub0) d (Memref.whole main_v23_scv : Memref sig .scVector .hbm S36x100000 .f32)
      cc0_scoped178 cc0_scoped179 cc0_scoped180 ((mIa).view.loc (thr L d) ↦{fullShare} fa) ((mIb).view.loc (thr L d) ↦{fullShare} fb) O W0 q ft
      (rowsSet (Cert.Spec.lo (wid L)) (Cert.Spec.hi (wid L))) G g0 (36 * 22 + dlo (wid L) 22) k acc)
    (fun _ _ _ _ _ _ _ _ _ _ => rfl)
    (fun O W0 q fx ft fa fb G g0 hfx hidx hG => Cert.Proof.BodyRowBits.dinst_22 (F := F) L d defs w0 w1 w2 w3 w4 w5 O W0 q fx ft fa fb G g0 hfx hidx hG)

/-- Field 23: the rule its loop over the tile's rows meets. -/
theorem rule23 (w0 : BitVec 32) (w1 : BitVec 32) (w2 : BitVec 32) (w3 : BitVec 32) :
    DRule (F := F) L d defs 23 (by decide) (fun q ft => ((Memref.whole main_v24_scv : Memref sig .scVector .hbm S36x100000 .f32).view.loc (thr L d) ↦{q} ft)) cc0_scoped186 cc0_scoped187 cc0_scoped188 (k0_t139_loop L) (k0_t139_ok L)
      (Gen.k0_t139_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3) :=
  drule_of_rows (F := F) L d defs 23 (by decide) (fun q ft => ((Memref.whole main_v24_scv : Memref sig .scVector .hbm S36x100000 .f32).view.loc (thr L d) ↦{q} ft)) cc0_scoped186 cc0_scoped187 cc0_scoped188 (k0_t139_loop L) (k0_t139_ok L) _
    (fun O W0 q ft fa fb G g0 k acc => Cert.Proof.BodyRowBits.rowsInv (F := F) ((L 0).castLE hcore0) ((L 1).castLE hsub0) d (Memref.whole main_v24_scv : Memref sig .scVector .hbm S36x100000 .f32)
      cc0_scoped186 cc0_scoped187 cc0_scoped188 ((mIa).view.loc (thr L d) ↦{fullShare} fa) ((mIb).view.loc (thr L d) ↦{fullShare} fb) O W0 q ft
      (rowsSet (Cert.Spec.lo (wid L)) (Cert.Spec.hi (wid L))) G g0 (36 * 23 + dlo (wid L) 23) k acc)
    (fun _ _ _ _ _ _ _ _ _ _ => rfl)
    (fun O W0 q fx ft fa fb G g0 hfx hidx hG => Cert.Proof.BodyRowBits.dinst_23 (F := F) L d defs w0 w1 w2 w3 O W0 q fx ft fa fb G g0 hfx hidx hG)

/-- Field 24: the rule its loop over the tile's rows meets. -/
theorem rule24 (w0 : BitVec 32) (w1 : BitVec 32) (w2 : BitVec 32) (w3 : BitVec 32) (w4 : BitVec 32) :
    DRule (F := F) L d defs 24 (by decide) (fun q ft => ((Memref.whole main_v25_scv : Memref sig .scVector .hbm S36x100000 .f32).view.loc (thr L d) ↦{q} ft)) cc0_scoped194 cc0_scoped195 cc0_scoped196 (k0_t145_loop L) (k0_t145_ok L)
      (Gen.k0_t145_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0 w1 w2 w3 w4) :=
  drule_of_rows (F := F) L d defs 24 (by decide) (fun q ft => ((Memref.whole main_v25_scv : Memref sig .scVector .hbm S36x100000 .f32).view.loc (thr L d) ↦{q} ft)) cc0_scoped194 cc0_scoped195 cc0_scoped196 (k0_t145_loop L) (k0_t145_ok L) _
    (fun O W0 q ft fa fb G g0 k acc => Cert.Proof.BodyRowBits.rowsInv (F := F) ((L 0).castLE hcore0) ((L 1).castLE hsub0) d (Memref.whole main_v25_scv : Memref sig .scVector .hbm S36x100000 .f32)
      cc0_scoped194 cc0_scoped195 cc0_scoped196 ((mIa).view.loc (thr L d) ↦{fullShare} fa) ((mIb).view.loc (thr L d) ↦{fullShare} fb) O W0 q ft
      (rowsSet (Cert.Spec.lo (wid L)) (Cert.Spec.hi (wid L))) G g0 (36 * 24 + dlo (wid L) 24) k acc)
    (fun _ _ _ _ _ _ _ _ _ _ => rfl)
    (fun O W0 q fx ft fa fb G g0 hfx hidx hG => Cert.Proof.BodyRowBits.dinst_24 (F := F) L d defs w0 w1 w2 w3 w4 O W0 q fx ft fa fb G g0 hfx hidx hG)

/-- Field 25: the rule its loop over the tile's rows meets. -/
theorem rule25 (w0 : BitVec 32) :
    DRule (F := F) L d defs 25 (by decide) (fun q ft => ((Memref.whole main_v26_scv : Memref sig .scVector .hbm S36x100000 .f32).view.loc (thr L d) ↦{q} ft)) cc0_scoped202 cc0_scoped203 cc0_scoped204 (k0_t151_loop L) (k0_t151_ok L)
      (Gen.k0_t151_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_v19_scv) (Memref.isWhole_whole _) (Memref.whole main_v20_scv) (Memref.isWhole_whole _) (Memref.whole main_v21_scv) (Memref.isWhole_whole _) (Memref.whole main_v22_scv) (Memref.isWhole_whole _) (Memref.whole main_v23_scv) (Memref.isWhole_whole _) (Memref.whole main_v24_scv) (Memref.isWhole_whole _) (Memref.whole main_v25_scv) (Memref.isWhole_whole _) (Memref.whole main_v26_scv) (Memref.isWhole_whole _) (Memref.whole main_v27_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92 cc0_scoped93 cc0_scoped94 cc0_scoped95 cc0_scoped96 cc0_scoped97 cc0_scoped98 cc0_scoped99 cc0_scoped100 cc0_scoped101 cc0_scoped102 cc0_scoped103 cc0_scoped104 cc0_scoped105 cc0_scoped106 cc0_scoped107 cc0_scoped108 cc0_scoped109 cc0_scoped110 cc0_scoped111 cc0_scoped112 cc0_scoped113 cc0_scoped114 cc0_scoped115 cc0_scoped116 cc0_scoped117 cc0_scoped118 cc0_scoped119 cc0_scoped120 cc0_scoped121 cc0_scoped122 cc0_scoped123 cc0_scoped124 cc0_scoped125 cc0_scoped126 cc0_scoped127 cc0_scoped128 cc0_scoped129 cc0_scoped130 cc0_scoped131 cc0_scoped132 cc0_scoped133 cc0_scoped134 cc0_scoped135 cc0_scoped136 cc0_scoped137 cc0_scoped138 cc0_scoped139 cc0_scoped140 cc0_scoped141 cc0_scoped142 cc0_scoped143 cc0_scoped144 cc0_scoped145 cc0_scoped146 cc0_scoped147 cc0_scoped148 cc0_scoped149 cc0_scoped150 cc0_scoped151 cc0_scoped152 cc0_scoped153 cc0_scoped154 cc0_scoped155 cc0_scoped156 cc0_scoped157 cc0_scoped158 cc0_scoped159 cc0_scoped160 cc0_scoped161 cc0_scoped162 cc0_scoped163 cc0_scoped164 cc0_scoped165 cc0_scoped166 cc0_scoped167 cc0_scoped168 cc0_scoped169 cc0_scoped170 cc0_scoped171 cc0_scoped172 cc0_scoped173 cc0_scoped174 cc0_scoped175 cc0_scoped176 cc0_scoped177 cc0_scoped178 cc0_scoped179 cc0_scoped180 cc0_scoped181 cc0_scoped182 cc0_scoped183 cc0_scoped184 cc0_scoped185 cc0_scoped186 cc0_scoped187 cc0_scoped188 cc0_scoped189 cc0_scoped190 cc0_scoped191 cc0_scoped192 cc0_scoped193 cc0_scoped194 cc0_scoped195 cc0_scoped196 cc0_scoped197 cc0_scoped198 cc0_scoped199 cc0_scoped200 cc0_scoped201 cc0_scoped202 cc0_scoped203 cc0_scoped204 cc0_scoped205 cc0_scoped206 cc0_scoped207 w0) :=
  drule_of_rows (F := F) L d defs 25 (by decide) (fun q ft => ((Memref.whole main_v26_scv : Memref sig .scVector .hbm S36x100000 .f32).view.loc (thr L d) ↦{q} ft)) cc0_scoped202 cc0_scoped203 cc0_scoped204 (k0_t151_loop L) (k0_t151_ok L) _
    (fun O W0 q ft fa fb G g0 k acc => Cert.Proof.BodyRowBits.rowsInv (F := F) ((L 0).castLE hcore0) ((L 1).castLE hsub0) d (Memref.whole main_v26_scv : Memref sig .scVector .hbm S36x100000 .f32)
      cc0_scoped202 cc0_scoped203 cc0_scoped204 ((mIa).view.loc (thr L d) ↦{fullShare} fa) ((mIb).view.loc (thr L d) ↦{fullShare} fb) O W0 q ft
      (rowsSet (Cert.Spec.lo (wid L)) (Cert.Spec.hi (wid L))) G g0 (36 * 25 + dlo (wid L) 25) k acc)
    (fun _ _ _ _ _ _ _ _ _ _ => rfl)
    (fun O W0 q fx ft fa fb G g0 hfx hidx hG => Cert.Proof.BodyRowBits.dinst_25 (F := F) L d defs w0 O W0 q fx ft fa fb G g0 hfx hidx hG)

/-- The 26 fields' loop rules, together. -/
theorem drules : DRules (F := F) L d defs where
  r0 := rule0 (F := F) L d defs
  r1 := rule1 (F := F) L d defs
  r2 := rule2 (F := F) L d defs
  r3 := rule3 (F := F) L d defs
  r4 := rule4 (F := F) L d defs
  r5 := rule5 (F := F) L d defs
  r6 := rule6 (F := F) L d defs
  r7 := rule7 (F := F) L d defs
  r8 := rule8 (F := F) L d defs
  r9 := rule9 (F := F) L d defs
  r10 := rule10 (F := F) L d defs
  r11 := rule11 (F := F) L d defs
  r12 := rule12 (F := F) L d defs
  r13 := rule13 (F := F) L d defs
  r14 := rule14 (F := F) L d defs
  r15 := rule15 (F := F) L d defs
  r16 := rule16 (F := F) L d defs
  r17 := rule17 (F := F) L d defs
  r18 := rule18 (F := F) L d defs
  r19 := rule19 (F := F) L d defs
  r20 := rule20 (F := F) L d defs
  r21 := rule21 (F := F) L d defs
  r22 := rule22 (F := F) L d defs
  r23 := rule23 (F := F) L d defs
  r24 := rule24 (F := F) L d defs
  r25 := rule25 (F := F) L d defs

end Cert.Proof.BodyRulesBits
-- ==== Proof.BodyOblBits.lean ====
/-
  The launch theorem's obligation for a tile, closed.

  The tile's function, run field by field under the 26 fields' loop rules, gives the tile's flattened run; that gives the
  tile's run in the launch's folded form, and that gives the obligation.
-/
import proofs.«204037_g66941360275737_cont_sun_c4_657_24_alg».proof.Proof.BodyWrapBits
import proofs.«204037_g66941360275737_cont_sun_c4_657_24_alg».proof.Proof.BodyTopBits
import proofs.«204037_g66941360275737_cont_sun_c4_657_24_alg».proof.Proof.BodyRulesBits

noncomputable section

namespace Cert.Proof.Kernel

open Cert.Kernel Cert.Kernel.Gen
open Idealize.ShloMosaic

variable {F : FTy → Type} [FloatOps F]

/-- The obligation for a tile from the flattened run. -/
theorem tileObl_of_flat (m : (ℓ : Loc nD τ sig) → Buf (Elt F) ℓ) (hflat : FlatRun (F := F) m) :
    (K (F := F)).TileObl (D (F := F)) 𝒱 (P m) v₀ 0 :=
  tileObl_of_run m (tileRun_of_flat m facts hflat)

set_option maxHeartbeats 4000000 in
/-- The flattened run, from the tile's function under the fields' loop rules, at the launch's values. -/
theorem flatRun (m : (ℓ : Loc nD τ sig) → Buf (Elt F) ℓ) (hpre : PreOK m) : FlatRun (F := F) m := by
  intro d L O W p hp
  exact Cert.Proof.BodyTopBits.tile_run (F := F) L d (defs₀ (F := F)) (Cert.Proof.BodyRulesBits.drules (F := F) L d (defs₀ (F := F))) O W _ _ _ _
    (fun y => xT_lt m hpre d y) p hp

/-- THE OBLIGATION FOR A TILE. -/
theorem tileObl (m : (ℓ : Loc nD τ sig) → Buf (Elt F) ℓ) (hpre : PreOK m) :
    (K (F := F)).TileObl (D (F := F)) 𝒱 (P m) v₀ 0 :=
  tileObl_of_flat m (flatRun m hpre)

end Cert.Proof.Kernel

end
-- ==== Proof.RefDefs.lean ====
import proofs.«204037_g66941360275737_cont_sun_c4_657_24_alg».proof.ReferenceIdeal
import proofs.«204037_g66941360275737_cont_sun_c4_657_24_alg».proof.Proof.Gen.ReferenceIdeal

noncomputable section

namespace Cert.ReferenceIdeal.RefRun

open Cert.ReferenceIdeal Idealize.ShloMosaic
open Cert.ReferenceIdeal.Facts₀

variable {F : FTy → Type} [FloatOps F]

/-! ## The reference's result as a pure term of its arguments -/

/-- What one lookup computes from the table `t` and the index column `x`: a negative index wrapped by the
    table's height, the wrapped index's in-range mask, the rows gathered, and the rows of an out-of-range
    index filled with the quiet NaN. -/
def takeVal (t : FVec F S100000x36 .f32) (x : IVec S16384 32) : FVec F S16384x36 .f32 :=
  let w : IVec S16384 32 :=
    select (cmpi .slt x (broadcastInDim S16384 ![] bcast_S_S16384 (constantI S_ 32 0#32)))
      (addi x (broadcastInDim S16384 ![] bcast_S_S16384 (constantI S_ 32 100000#32))) x
  let i : IVec S16384x1 32 := broadcastInDim S16384x1 ![0] bcast_S16384_S16384x1_0 w
  let ok : IVec S16384 1 :=
    Host.reduce IntOp.andi
      (andi (cmpi .sge i (broadcastInDim S16384x1 ![] bcast_S_S16384x1 (constantI S_ 32 0#32)))
        (cmpi .sle i (broadcastInDim S16384x1 ![0, 1] bcast_S1x1_S16384x1_0_1
          (broadcastInDim S1x1 ![1] bcast_S1_S1x1_1 (constantI S1 32 99999#32)))))
      (constantI S_ 1 1#1) reducesTo_S16384x1_S16384_d1 h_S_
  select (broadcastInDim S16384x36 ![0] bcast_S16384_S16384x36_0 ok)
    (Host.gather gather_S100000x36_S16384x1_S16384x36_1_0_n_n_0_1_136 t i)
    (broadcastInDim S16384x36 ![] bcast_S_S16384x36 (constant S_ .f32 0x7FC00000#32))

/-- Every column's slice lies inside the index array. -/
theorem slices : ∀ k : Fin 26, S16384x26.Slices ![0, (k : ℕ)] S16384x1 := by decide

/-- Column `k` of the index array as a vector: the slice `[0:16384, k:k+1]` reshaped to `[16384]`. -/
def colVal (k : ℕ) (hk : S16384x26.Slices ![0, k] S16384x1) (x : IVec S16384x26 32) : IVec S16384 32 :=
  shapeCast S16384 (extractStridedSlice S16384x1 ![0, k] x hk) shapeCasts_S16384x1_S16384

/-- The 26 lookups side by side: the first sixteen concatenated along the columns, the last ten, then the two. -/
def concat26 (r : Fin 26 → FVec F S16384x36 .f32) : FVec F S16384x936 .f32 :=
  concatenate S16384x936 1
    [⟨S16384x576, concatenate S16384x576 1 [⟨S16384x36, r 0⟩, ⟨S16384x36, r 1⟩, ⟨S16384x36, r 2⟩, ⟨S16384x36, r 3⟩, ⟨S16384x36, r 4⟩, ⟨S16384x36, r 5⟩, ⟨S16384x36, r 6⟩, ⟨S16384x36, r 7⟩, ⟨S16384x36, r 8⟩, ⟨S16384x36, r 9⟩, ⟨S16384x36, r 10⟩, ⟨S16384x36, r 11⟩, ⟨S16384x36, r 12⟩, ⟨S16384x36, r 13⟩, ⟨S16384x36, r 14⟩, ⟨S16384x36, r 15⟩] concatenates_S16384x36_S16384x36_S16384x36_S16384x36_S16384x36_S16384x36_S16384x36_S16384x36_S16384x36_S16384x36_S16384x36_S16384x36_S16384x36_S16384x36_S16384x36_S16384x36_S16384x576_d1⟩,
     ⟨S16384x360, concatenate S16384x360 1 [⟨S16384x36, r 16⟩, ⟨S16384x36, r 17⟩, ⟨S16384x36, r 18⟩, ⟨S16384x36, r 19⟩, ⟨S16384x36, r 20⟩, ⟨S16384x36, r 21⟩, ⟨S16384x36, r 22⟩, ⟨S16384x36, r 23⟩, ⟨S16384x36, r 24⟩, ⟨S16384x36, r 25⟩] concatenates_S16384x36_S16384x36_S16384x36_S16384x36_S16384x36_S16384x36_S16384x36_S16384x36_S16384x36_S16384x36_S16384x360_d1⟩]
    concatenates_S16384x576_S16384x360_S16384x936_d1

/-- The reference's result from the index array `x` and the family `t` of the 26 tables. -/
def refOutF (x : IVec S16384x26 32) (t : Fin 26 → FVec F S100000x36 .f32) : FVec F S16384x936 .f32 :=
  concat26 fun j => takeVal (t j) (colVal j (slices j) x)

/-- The reference's result from its 27 arguments. -/
def refOut (x : IVec S16384x26 32) (t1 t2 t3 t4 t5 t6 t7 t8 t9 t10 t11 t12 t13 t14 t15 t16 t17 t18 t19 t20 t21 t22 t23 t24 t25 t26 : FVec F S100000x36 .f32) : FVec F S16384x936 .f32 :=
  refOutF x ![t1, t2, t3, t4, t5, t6, t7, t8, t9, t10, t11, t12, t13, t14, t15, t16, t17, t18, t19, t20, t21, t22, t23, t24, t25, t26]

end Cert.ReferenceIdeal.RefRun

end
-- ==== Proof.RefOps.lean ====
import proofs.«204037_g66941360275737_cont_sun_c4_657_24_alg».proof.ReferenceIdeal
import proofs.«204037_g66941360275737_cont_sun_c4_657_24_alg».proof.Proof.Gen.ReferenceIdeal
import proofs.«204037_g66941360275737_cont_sun_c4_657_24_alg».proof.Proof.RefDefs
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## One lookup: the outlined function's operations and their composed value -/

/-- The 23 operations of one call of the lookup function (its nested select inlined), over the call's
    typed references: the table `tbl`, the index column `idx` and the call's own buffers `φ`. -/
noncomputable def takeOps (tbl : TRef sig ⟨S100000x36, .f32⟩) (idx : TRef sig ⟨S16384, .i32⟩) (φ : fn_take.Bufs) :
    List (HloOp τ sig (Elt F)) :=
  [ TRef.nullary φ.c (constantI S_ 32 0#32),
    TRef.unary φ.c φ.v0 (broadcastInDim S16384 ![] bcast_S_S16384),
    TRef.binary idx φ.v0 φ.v1 (cmpi .slt),
    TRef.nullary φ.c_0 (constantI S_ 32 100000#32),
    TRef.unary φ.c_0 φ.v2 (broadcastInDim S16384 ![] bcast_S_S16384),
    TRef.binary idx φ.v2 φ.v3 addi,
    TRef.ternary φ.v1 φ.v3 idx φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary tbl φ.v5 φ.v13 (fun x i => Host.gather gather_S100000x36_S16384x1_S16384x36_1_0_n_n_0_1_136 x i),
    TRef.unary φ.v12 φ.v14 (broadcastInDim S16384x36 ![0] bcast_S16384_S16384x36_0),
    TRef.nullary φ.cst (constant S_ .f32 0x7FC00000#32),
    TRef.unary φ.cst φ.v15 (broadcastInDim S16384x36 ![] bcast_S_S16384x36),
    TRef.ternary φ.v14 φ.v13 φ.v15 φ.v16 select ]

set_option maxRecDepth 2048 in
/-- The call's body is that straight line. -/
theorem take_body_eq (tbl : TRef sig ⟨S100000x36, .f32⟩) (idx : TRef sig ⟨S16384, .i32⟩) (φ : fn_take.Bufs) :
    fn_take.body (F := F) tbl idx φ = seq (takeOps tbl idx φ) := by
  simp only [fn_take.body, fn_where.body, takeOps, seq, bind_assoc, pure_bind]

/-- The buffers one call writes, in program order. -/
noncomputable def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref,
   φ.v6.ref, φ.v7.ref, φ.v8.ref, φ.v9.ref, φ.v10.ref, φ.v11.ref, φ.c_3.ref, φ.v12.ref, φ.v13.ref, φ.v14.ref,
   φ.cst.ref, φ.v15.ref, φ.v16.ref]

attribute [local irreducible] Host.reduce Host.gather in
set_option maxRecDepth 8192 in
set_option maxHeartbeats 1600000 in
/-- After one call, its result buffer holds `takeVal` of the table's and the column's contents: when the two
    operands and the call's own buffers are pairwise distinct, each read sees the value its producer wrote. -/
theorem take_result (tbl : TRef sig ⟨S100000x36, .f32⟩) (idx : TRef sig ⟨S16384, .i32⟩) (φ : fn_take.Bufs)
    (hnd : (tbl.ref :: idx.ref :: takeW φ).Nodup) (V : Valuation τ sig (Elt F)) :
    after (takeOps tbl idx φ) V (Proc.devRef .tc φ.v16.ref)
      = φ.v16.toBuf (takeVal (tbl.ofBuf (V (Proc.devRef .tc tbl.ref))) (idx.ofBuf (V (Proc.devRef .tc idx.ref)))) := by
  simp only [takeW, List.nodup_cons, List.mem_cons, List.not_mem_nil, or_false, not_or, List.nodup_nil, and_true] at hnd
  simp only [takeOps, TRef.nullary, TRef.unary, TRef.binary, TRef.ternary, after_cons, after_nil,
    nullary_result', unary_result', binary_result', ternary_result',
    nullary_result_ne', unary_result_ne', binary_result_ne', ternary_result_ne', hnd, ne_eq, not_false_eq_true,
    TRef.toBuf, TRef.ofBuf, cast_cast, cast_eq]
  rfl

/-! ## One field: the column's slice, its reshape, the lookup -/

/-- A typed reshape's result buffer holds the operand's elements in row-major order. -/
theorem tref_reshape_result {Tx Ty : BufTy} (x : TRef sig Tx) (y : TRef sig Ty) (he : Tx.elt = Ty.elt)
    (hn : Tx.shape.ShapeCasts Ty.shape) (V : Valuation τ sig (Elt F)) :
    (TRef.reshape (τ := τ) (Val := Elt F) x y he hn).result V (Proc.devRef .tc y.ref)
      = y.toBuf (fun i => he ▸ shapeCast Ty.shape (x.ofBuf (V (Proc.devRef .tc x.ref))) hn i) := by
  obtain ⟨xr, hx, _, _⟩ := x
  obtain ⟨yr, hy, _, _⟩ := y
  subst hx; subst hy
  exact reshape_result ..

/-- A typed reshape leaves every other buffer. -/
theorem tref_reshape_result_ne {Tx Ty : BufTy} (x : TRef sig Tx) (y : TRef sig Ty) (he : Tx.elt = Ty.elt)
    (hn : Tx.shape.ShapeCasts Ty.shape) (V : Valuation τ sig (Elt F)) {r : Ref sig .tc} (h : r ≠ y.ref) :
    (TRef.reshape (τ := τ) (Val := Elt F) x y he hn).result V (Proc.devRef .tc r) = V (Proc.devRef .tc r) :=
  reshape_result_ne' _ _ _ _ V h

/-- One field's 25 operations: the slice of column `k` of `a0` into `sl`, its reshape into `rs`, then the
    lookup of `tbl` at `rs` into the call's buffers. -/
noncomputable def fieldOps (a0 : TRef sig ⟨S16384x26, .i32⟩) (sl : TRef sig ⟨S16384x1, .i32⟩) (rs : TRef sig ⟨S16384, .i32⟩)
    (tbl : TRef sig ⟨S100000x36, .f32⟩) (φ : fn_take.Bufs) (k : ℕ) (hk : S16384x26.Slices ![0, k] S16384x1) :
    List (HloOp τ sig (Elt F)) :=
  TRef.unary a0 sl (fun x => extractStridedSlice S16384x1 ![0, k] x hk)
    :: TRef.reshape sl rs rfl shapeCasts_S16384x1_S16384
    :: takeOps tbl rs φ

/-- The buffers one field writes. -/
noncomputable def fieldW (sl : TRef sig ⟨S16384x1, .i32⟩) (rs : TRef sig ⟨S16384, .i32⟩) (φ : fn_take.Bufs) : List (Ref sig .tc) :=
  sl.ref :: rs.ref :: takeW φ

/-- After one field's operations its result buffer holds the lookup of the table at the column. -/
theorem field_result (a0 : TRef sig ⟨S16384x26, .i32⟩) (sl : TRef sig ⟨S16384x1, .i32⟩) (rs : TRef sig ⟨S16384, .i32⟩)
    (tbl : TRef sig ⟨S100000x36, .f32⟩) (φ : fn_take.Bufs) (k : ℕ) (hk : S16384x26.Slices ![0, k] S16384x1)
    (hnd : (a0.ref :: tbl.ref :: fieldW sl rs φ).Nodup) (V : Valuation τ sig (Elt F)) :
    after (fieldOps a0 sl rs tbl φ k hk) V (Proc.devRef .tc φ.v16.ref)
      = φ.v16.toBuf (takeVal (tbl.ofBuf (V (Proc.devRef .tc tbl.ref))) (colVal k hk (a0.ofBuf (V (Proc.devRef .tc a0.ref))))) := by
  have h1 : (tbl.ref :: rs.ref :: takeW φ).Nodup := by
    simp only [fieldW, List.nodup_cons, List.mem_cons, not_or] at hnd ⊢
    exact ⟨⟨hnd.2.1.2.1, hnd.2.1.2.2⟩, hnd.2.2.2.1, hnd.2.2.2.2⟩
  have hts : tbl.ref ≠ sl.ref := by
    simp only [fieldW, List.nodup_cons, List.mem_cons, not_or] at hnd; exact hnd.2.1.1
  have htr : tbl.ref ≠ rs.ref := by
    simp only [fieldW, List.nodup_cons, List.mem_cons, not_or] at hnd; exact hnd.2.1.2.1
  simp only [fieldOps, after_cons]
  rw [take_result tbl rs φ h1, tref_reshape_result, tref_reshape_result_ne _ _ _ _ _ htr]
  simp only [TRef.unary, unary_result', unary_result_ne' _ _ _ _ hts, TRef.toBuf, TRef.ofBuf, cast_cast, cast_eq]
  rfl

/-- Each operation of a lookup writes one of the call's buffers. -/
theorem takeOps_writes (tbl : TRef sig ⟨S100000x36, .f32⟩) (idx : TRef sig ⟨S16384, .i32⟩) (φ : fn_take.Bufs) :
    (takeOps (F := F) tbl idx φ).Forall fun op =>
      op.writes ⊆ ((takeW φ).map (Proc.devRef (τ := τ) .tc)).toFinset := by
  simp only [takeOps, takeW, List.Forall, TRef.nullary, TRef.unary, TRef.binary, TRef.ternary, nullary_writes, unary_writes,
    binary_writes, ternary_writes, Finset.singleton_subset_iff, List.mem_toFinset, List.map_cons, List.map_nil,
    List.mem_cons, true_or, or_true, and_self]

/-- Each operation of a field writes one of the field's buffers. -/
theorem fieldOps_writes (a0 : TRef sig ⟨S16384x26, .i32⟩) (sl : TRef sig ⟨S16384x1, .i32⟩) (rs : TRef sig ⟨S16384, .i32⟩)
    (tbl : TRef sig ⟨S100000x36, .f32⟩) (φ : fn_take.Bufs) (k : ℕ) (hk : S16384x26.Slices ![0, k] S16384x1) :
    (fieldOps (F := F) a0 sl rs tbl φ k hk).Forall fun op =>
      op.writes ⊆ ((fieldW sl rs φ).map (Proc.devRef (τ := τ) .tc)).toFinset := by
  simp only [fieldOps, fieldW, List.forall_cons, List.map_cons, List.toFinset_cons]
  refine ⟨?_, ?_, ?_⟩
  · simp only [TRef.unary, unary_writes, Finset.singleton_subset_iff, Finset.mem_insert, true_or]
  · simp only [TRef.reshape, reshape_writes, Finset.singleton_subset_iff, Finset.mem_insert, true_or, or_true]
  · exact (takeOps_writes tbl rs φ).imp fun op h => h.trans ((Finset.subset_insert _ _).trans (Finset.subset_insert _ _))

/-! ## The 26 fields of @main -/

/-- The index array's buffer. -/
noncomputable abbrev a0 : TRef sig ⟨S16384x26, .i32⟩ := .of main_arg0
/-- Field `k`'s table. -/
noncomputable def tbl : Fin 26 → TRef sig ⟨S100000x36, .f32⟩ :=
  ![.of main_arg1, .of main_arg2, .of main_arg3, .of main_arg4, .of main_arg5, .of main_arg6, .of main_arg7, .of main_arg8, .of main_arg9, .of main_arg10, .of main_arg11, .of main_arg12, .of main_arg13, .of main_arg14, .of main_arg15, .of main_arg16, .of main_arg17, .of main_arg18, .of main_arg19, .of main_arg20, .of main_arg21, .of main_arg22, .of main_arg23, .of main_arg24, .of main_arg25, .of main_arg26]
/-- Field `k`'s sliced column. -/
noncomputable def slR : Fin 26 → TRef sig ⟨S16384x1, .i32⟩ :=
  ![.of main_v0, .of main_v3, .of main_v6, .of main_v9, .of main_v12, .of main_v15, .of main_v18, .of main_v21, .of main_v24, .of main_v27, .of main_v30, .of main_v33, .of main_v36, .of main_v39, .of main_v42, .of main_v45, .of main_v48, .of main_v51, .of main_v54, .of main_v57, .of main_v60, .of main_v63, .of main_v66, .of main_v69, .of main_v72, .of main_v75]
/-- Field `k`'s column as a vector. -/
noncomputable def rsR : Fin 26 → TRef sig ⟨S16384, .i32⟩ :=
  ![.of main_v1, .of main_v4, .of main_v7, .of main_v10, .of main_v13, .of main_v16, .of main_v19, .of main_v22, .of main_v25, .of main_v28, .of main_v31, .of main_v34, .of main_v37, .of main_v40, .of main_v43, .of main_v46, .of main_v49, .of main_v52, .of main_v55, .of main_v58, .of main_v61, .of main_v64, .of main_v67, .of main_v70, .of main_v73, .of main_v76]
/-- Field `k`'s call record. -/
noncomputable def call : Fin 26 → fn_take.Bufs :=
  ![main_call0, main_call1, main_call2, main_call3, main_call4, main_call5, main_call6, main_call7, main_call8, main_call9, main_call10, main_call11, main_call12, main_call13, main_call14, main_call15, main_call16, main_call17, main_call18, main_call19, main_call20, main_call21, main_call22, main_call23, main_call24, main_call25]

/-- Field `k`'s operations. -/
noncomputable def seg (k : Fin 26) : List (HloOp τ sig (Elt F)) := fieldOps a0 (slR k) (rsR k) (tbl k) (call k) k (slices k)
/-- The buffers field `k` writes. -/
noncomputable def segW (k : Fin 26) : List (Ref sig .tc) := fieldW (slR k) (rsR k) (call k)
/-- Field `k`'s result buffer. -/
noncomputable def res (k : Fin 26) : Ref sig .tc := (call k).v16.ref

/-- A reference's index within its memory space: references of different indices are different. -/
noncomputable def ix (r : Ref sig .tc) : ℕ := r.idx.val

theorem not_mem_of_ix {r : Ref sig .tc} {L : List (Ref sig .tc)} (h : ix r ∉ L.map ix) : r ∉ L :=
  fun hm => h (List.mem_map_of_mem hm)

theorem nodup_of_ix {L : List (Ref sig .tc)} (h : (L.map ix).Nodup) : L.Nodup := List.Nodup.of_map ix h

/-- A field's result buffer is written by no other field. -/
theorem res_not_mem (i j : Fin 26) (h : i ≠ j) : res j ∉ segW i :=
  not_mem_of_ix ((by decide +kernel : ∀ i j : Fin 26, i ≠ j → ix (res j) ∉ (segW i).map ix) i j h)
/-- No field writes the index array. -/
theorem a0_not_mem (i : Fin 26) : a0.ref ∉ segW i :=
  not_mem_of_ix ((by decide +kernel : ∀ i : Fin 26, ix a0.ref ∉ (segW i).map ix) i)
/-- No field writes a table. -/
theorem tbl_not_mem (i j : Fin 26) : (tbl j).ref ∉ segW i :=
  not_mem_of_ix ((by decide +kernel : ∀ i j : Fin 26, ix (tbl j).ref ∉ (segW i).map ix) i j)
/-- A field's operands and its own buffers are pairwise distinct. -/
theorem seg_nodup (j : Fin 26) : (a0.ref :: (tbl j).ref :: segW j).Nodup :=
  nodup_of_ix ((by decide +kernel : ∀ j : Fin 26, ((a0.ref :: (tbl j).ref :: segW j).map ix).Nodup) j)

end Cert.ReferenceIdeal.RefRun

end
-- ==== Proof.RefRun.lean ====
import proofs.«204037_g66941360275737_cont_sun_c4_657_24_alg».proof.ReferenceIdeal
import proofs.«204037_g66941360275737_cont_sun_c4_657_24_alg».proof.Proof.Gen.ReferenceIdeal
import proofs.«204037_g66941360275737_cont_sun_c4_657_24_alg».proof.Proof.RefDefs
import proofs.«204037_g66941360275737_cont_sun_c4_657_24_alg».proof.Proof.RefOps
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Each operation of field `i` writes one of the field's buffers. -/
theorem seg_writes (i : Fin 26) : (seg (F := F) i).Forall fun op =>
    op.writes ⊆ ((segW i).map (Proc.devRef (τ := τ) .tc)).toFinset :=
  fieldOps_writes a0 (slR i) (rsR i) (tbl i) (call i) i (slices i)

/-- A buffer that none of the listed fields writes keeps its contents through them. -/
theorem segs_keep (l : List (Fin 26)) (r : Ref sig .tc) (hr : ∀ i ∈ l, r ∉ segW i) (V : Valuation τ sig (Elt F)) :
    after (l.flatMap seg) V (Proc.devRef .tc r) = V (Proc.devRef .tc r) := by
  induction l generalizing V with
  | nil => rfl
  | cons i l ih =>
    rw [List.flatMap_cons, after_app, ih (fun i' hi' => hr i' (List.mem_cons_of_mem _ hi'))]
    exact after_of_writes_sub (seg i) _ (seg_writes i) (hr i List.mem_cons_self)

/-- The value of field `j`'s lookup from contents `V`. -/
def resVal (j : Fin 26) (V : Valuation τ sig (Elt F)) : FVec F S16384x36 .f32 :=
  takeVal ((tbl j).ofBuf (V (Proc.devRef .tc (tbl j).ref))) (colVal j (slices j) (a0.ofBuf (V (Proc.devRef .tc a0.ref))))

/-- After the listed fields (each at most once), a listed field's result buffer holds its lookup of the
    contents the fields started from: no field writes an operand of another, nor another's result. -/
theorem segs_result (l : List (Fin 26)) (hl : l.Nodup) (j : Fin 26) (hj : j ∈ l) (V : Valuation τ sig (Elt F)) :
    after (l.flatMap seg) V (Proc.devRef .tc (call j).v16.ref) = (call j).v16.toBuf (resVal j V) := by
  induction l generalizing V with
  | nil => exact absurd hj List.not_mem_nil
  | cons i l ih =>
    rw [List.flatMap_cons, after_app]
    rw [List.nodup_cons] at hl
    by_cases hij : i = j
    · subst hij
      rw [segs_keep l (call i).v16.ref (fun i' hi' => res_not_mem i' i (fun e => hl.1 (e ▸ hi')))]
      exact field_result a0 (slR i) (rsR i) (tbl i) (call i) i (slices i) (seg_nodup i) V
    · have hj' : j ∈ l := (List.mem_cons.mp hj).resolve_left (fun e => hij e.symm)
      rw [ih hl.2 hj']
      unfold resVal
      rw [after_of_writes_sub (seg i) V (seg_writes i) (tbl_not_mem i j),
        after_of_writes_sub (seg i) V (seg_writes i) (a0_not_mem i)]

/-! ## @main as one line of operations -/

/-- The three concatenations that end @main: the first sixteen lookups, the last ten, the two halves. -/
def tailOps : List (HloOp τ sig (Elt F)) :=
  [ StableHlo.nary ![main_v2, main_v5, main_v8, main_v11, main_v14, main_v17, main_v20, main_v23, main_v26, main_v29, main_v32, main_v35, main_v38, main_v41, main_v44, main_v47] main_v78 (fun u => concatenate S16384x576 1 [⟨S16384x36, u 0⟩, ⟨S16384x36, u 1⟩, ⟨S16384x36, u 2⟩, ⟨S16384x36, u 3⟩, ⟨S16384x36, u 4⟩, ⟨S16384x36, u 5⟩, ⟨S16384x36, u 6⟩, ⟨S16384x36, u 7⟩, ⟨S16384x36, u 8⟩, ⟨S16384x36, u 9⟩, ⟨S16384x36, u 10⟩, ⟨S16384x36, u 11⟩, ⟨S16384x36, u 12⟩, ⟨S16384x36, u 13⟩, ⟨S16384x36, u 14⟩, ⟨S16384x36, u 15⟩] concatenates_S16384x36_S16384x36_S16384x36_S16384x36_S16384x36_S16384x36_S16384x36_S16384x36_S16384x36_S16384x36_S16384x36_S16384x36_S16384x36_S16384x36_S16384x36_S16384x36_S16384x576_d1),
    StableHlo.nary ![main_v50, main_v53, main_v56, main_v59, main_v62, main_v65, main_v68, main_v71, main_v74, main_v77] main_v79 (fun u => concatenate S16384x360 1 [⟨S16384x36, u 0⟩, ⟨S16384x36, u 1⟩, ⟨S16384x36, u 2⟩, ⟨S16384x36, u 3⟩, ⟨S16384x36, u 4⟩, ⟨S16384x36, u 5⟩, ⟨S16384x36, u 6⟩, ⟨S16384x36, u 7⟩, ⟨S16384x36, u 8⟩, ⟨S16384x36, u 9⟩] concatenates_S16384x36_S16384x36_S16384x36_S16384x36_S16384x36_S16384x36_S16384x36_S16384x36_S16384x36_S16384x36_S16384x360_d1),
    StableHlo.binary main_v78 main_v79 main_v80 ((fun a b => concatenate S16384x936 1 [⟨S16384x576, a⟩, ⟨S16384x360, b⟩] concatenates_S16384x576_S16384x360_S16384x936_d1) : (⟨S16384x576, .f32⟩ : BufTy).Contents (Elt F) → (⟨S16384x360, .f32⟩ : BufTy).Contents (Elt F) → (⟨S16384x936, .f32⟩ : BufTy).Contents (Elt F)) ]

/-- The fields of @main's first window, and of its second. -/
def l0 : List (Fin 26) := [0, 1, 2, 3, 4, 5, 6, 7, 8, 9, 10, 11, 12, 13, 14, 15, 16, 17, 18, 19]
@[inherit_doc l0]
def l1 : List (Fin 26) := [20, 21, 22, 23, 24, 25]

theorem l01_nodup : (l0 ++ l1).Nodup := by decide
theorem mem_l01 : ∀ j : Fin 26, j ∈ l0 ++ l1 := by decide

/-- @main's 653 operations, in order: the 26 fields, then the concatenations. -/
def ops : List (HloOp τ sig (Elt F)) := (l0 ++ l1).flatMap seg ++ tailOps

/-- The type of @main's programs. -/
abbrev MainProg (F : FTy → Type) [FloatOps F] : Type 1 :=
  Prog (TpuEff nD τ sig (Elt F) (Pipeline.Sig Λ₀ (Fin 0) fun p => (pcfgs (F := F) p).Adm) .tc) PUnit

/-- One field's operations followed by a line `L` are the slice, the reshape, the call, then `L`. -/
theorem seq_field_append (a0 : TRef sig ⟨S16384x26, .i32⟩) (sl : TRef sig ⟨S16384x1, .i32⟩) (rs : TRef sig ⟨S16384, .i32⟩)
    (tbl : TRef sig ⟨S100000x36, .f32⟩) (φ : fn_take.Bufs) (k : ℕ) (hk : S16384x26.Slices ![0, k] S16384x1)
    (L : List (HloOp τ sig (Elt F))) :
    (seq (fieldOps a0 sl rs tbl φ k hk ++ L) : MainProg F)
      = (hlo rfl (TRef.unary a0 sl (fun x => extractStridedSlice S16384x1 ![0, k] x hk)) (fun _ => .ret (⟨⟩ : PUnit))) >>= fun _ =>
        (hlo rfl (TRef.reshape sl rs rfl shapeCasts_S16384x1_S16384) (fun _ => .ret (⟨⟩ : PUnit))) >>= fun _ =>
        fn_take.body tbl rs φ >>= fun _ => seq L := by
  simp only [fieldOps, List.cons_append, seq, seq_append, take_body_eq]

set_option maxRecDepth 8192 in
theorem part0_eq (c : Dev nD) : main_part0 (F := F) c = seq (l0.flatMap seg) := by
  simp only [l0, List.flatMap_cons, List.flatMap_nil, seg, seq_field_append, seq, bind_pure_unit]
  rfl

set_option maxRecDepth 8192 in
theorem part1_eq (c : Dev nD) : main_part1 (F := F) c = seq (l1.flatMap seg ++ tailOps) := by
  simp only [l1, List.flatMap_cons, List.flatMap_nil, List.append_assoc, List.nil_append, seg, seq_field_append, tailOps, seq]
  rfl

/-- @main is that straight line. -/
theorem main_eq (c : Dev nD) : main (F := F) c = seq ops := by
  rw [ops, List.flatMap_append, List.append_assoc, seq_append, ← part0_eq c, ← part1_eq c]
  rfl

/-! ## The side conditions of the run -/

/-- An operation touches TensorCore references only and determines every buffer it writes. -/
def Good (op : HloOp τ sig (Elt F)) : Prop := op.bufs ⊆ tcRefs τ sig ∧ op.fresh = ∅

theorem takeOps_good (tbl : TRef sig ⟨S100000x36, .f32⟩) (idx : TRef sig ⟨S16384, .i32⟩) (φ : fn_take.Bufs) :
    (takeOps (F := F) tbl idx φ).Forall Good := by
  unfold takeOps
  exact ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem fieldOps_good (a0 : TRef sig ⟨S16384x26, .i32⟩) (sl : TRef sig ⟨S16384x1, .i32⟩) (rs : TRef sig ⟨S16384, .i32⟩)
    (tbl : TRef sig ⟨S100000x36, .f32⟩) (φ : fn_take.Bufs) (k : ℕ) (hk : S16384x26.Slices ![0, k] S16384x1) :
    (fieldOps (F := F) a0 sl rs tbl φ k hk).Forall Good := by
  simp only [fieldOps, List.forall_cons]
  exact ⟨⟨unary_bufs_sub .., rfl⟩, ⟨reshape_bufs_sub .., rfl⟩, takeOps_good tbl rs φ⟩

theorem tailOps_good : (tailOps (F := F)).Forall Good := by
  unfold tailOps
  exact ⟨⟨nary_bufs_sub .., rfl⟩, ⟨nary_bufs_sub .., rfl⟩, ⟨binary_bufs_sub .., rfl⟩⟩

theorem ops_good : ∀ op ∈ ops (F := F), Good op := by
  intro op h
  rcases List.mem_append.mp h with h | h
  · obtain ⟨k, -, hk⟩ := List.mem_flatMap.mp h
    exact List.forall_iff_forall_mem.mp (fieldOps_good ..) op hk
  · exact List.forall_iff_forall_mem.mp tailOps_good op h

theorem scopedRefs_eq : (Finset.univ.filter fun b : Ref sig .tc => b.isScoped) = ∅ := by decide
theorem scopedSems_eq : (Finset.univ.filter fun sm : SemLoc sig => sm.isScoped .tc) = ∅ := by decide

/-! ## What the result buffer and the arguments hold after @main -/

attribute [local irreducible] concatenate in
set_option maxRecDepth 16384 in
/-- After the three concatenations the result buffer holds the 26 lookups' buffers side by side. -/
theorem tail_result (W : Valuation τ sig (Elt F)) :
    after tailOps W (Proc.devRef .tc main_v80)
      = concat26 (fun j => (call j).v16.ofBuf (W (Proc.devRef .tc (call j).v16.ref))) := by
  simp (disch := decide) only [tailOps, after_cons, after_nil, binary_result', nary_result', nary_result_ne']
  rfl

/-- The concatenations write the two halves and the result. -/
theorem tailOps_writes : (tailOps (F := F)).Forall fun op =>
    op.writes ⊆ (([main_v78, main_v79, main_v80] : List (Ref sig .tc)).map (Proc.devRef (τ := τ) .tc)).toFinset := by
  simp only [tailOps, List.Forall, nary_writes, binary_writes, Finset.singleton_subset_iff, List.mem_toFinset, List.map_cons,
    List.map_nil, List.mem_cons, true_or, or_true, and_self]

/-- After @main the result buffer holds the reference's composed term of the arguments' contents. -/
theorem out_eq (V : Valuation τ sig (Elt F)) :
    after ops V (Proc.devRef .tc main_v80)
      = refOutF (a0.ofBuf (V (Proc.devRef .tc a0.ref))) (fun j => (tbl j).ofBuf (V (Proc.devRef .tc (tbl j).ref))) := by
  rw [ops, after_app, tail_result]
  unfold refOutF
  refine congrArg concat26 (funext fun j => ?_)
  rw [segs_result _ l01_nodup j (mem_l01 j) V]
  simp only [TRef.toBuf, TRef.ofBuf, cast_cast, cast_eq]
  rfl

/-- A buffer no field and no concatenation writes keeps its contents through @main. -/
theorem keep (r : Ref sig .tc) (hr : ∀ i, r ∉ segW i) (hr' : r ∉ ([main_v78, main_v79, main_v80] : List (Ref sig .tc)))
    (V : Valuation τ sig (Elt F)) : after ops V (Proc.devRef .tc r) = V (Proc.devRef .tc r) := by
  rw [ops, after_app, after_of_writes_sub _ _ tailOps_writes hr', segs_keep _ r (fun i _ => hr i)]

/-! ## The run -/

/-- On every device, for any float values, from any memory with zero counters: every weakly fair execution of
    @main terminates, and every TensorCore buffer ends at the operations' fold over its launch contents. -/
theorem run_raw (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq
    (fun _ => List.forall_iff_forall_mem.mpr fun op h => (ops_good op h).1) m ρ (fun _ op h => (ops_good op h).2)

/-- The tables' launch contents as a family. -/
theorem tbl_launch (m : (ℓ : Loc nD τ sig) → Buf (Elt F) ℓ) (c : Dev nD) :
    (fun j => (tbl j).ofBuf (launchContents m c (Proc.devRef .tc (tbl j).ref)))
      = (![m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26)] : Fin 26 → FVec F S100000x36 .f32) := by
  funext j
  fin_cases j <;> rfl

/-- On every device, for any float values, from any memory with zero counters: every weakly fair execution of
    @main terminates with the result at the reference's composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v80)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
            (m ((c.tc : Thread nD τ).loc main_arg25))
            (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c =>
    ⟨(h c main_v80).trans ((out_eq _).trans (by rw [tbl_launch]; rfl)),
      (h c main_arg0).trans (keep main_arg0 a0_not_mem (by decide) _),
      (h c main_arg1).trans (keep main_arg1 (fun i => tbl_not_mem i 0) (by decide) _),
      (h c main_arg2).trans (keep main_arg2 (fun i => tbl_not_mem i 1) (by decide) _),
      (h c main_arg3).trans (keep main_arg3 (fun i => tbl_not_mem i 2) (by decide) _),
      (h c main_arg4).trans (keep main_arg4 (fun i => tbl_not_mem i 3) (by decide) _),
      (h c main_arg5).trans (keep main_arg5 (fun i => tbl_not_mem i 4) (by decide) _),
      (h c main_arg6).trans (keep main_arg6 (fun i => tbl_not_mem i 5) (by decide) _),
      (h c main_arg7).trans (keep main_arg7 (fun i => tbl_not_mem i 6) (by decide) _),
      (h c main_arg8).trans (keep main_arg8 (fun i => tbl_not_mem i 7) (by decide) _),
      (h c main_arg9).trans (keep main_arg9 (fun i => tbl_not_mem i 8) (by decide) _),
      (h c main_arg10).trans (keep main_arg10 (fun i => tbl_not_mem i 9) (by decide) _),
      (h c main_arg11).trans (keep main_arg11 (fun i => tbl_not_mem i 10) (by decide) _),
      (h c main_arg12).trans (keep main_arg12 (fun i => tbl_not_mem i 11) (by decide) _),
      (h c main_arg13).trans (keep main_arg13 (fun i => tbl_not_mem i 12) (by decide) _),
      (h c main_arg14).trans (keep main_arg14 (fun i => tbl_not_mem i 13) (by decide) _),
      (h c main_arg15).trans (keep main_arg15 (fun i => tbl_not_mem i 14) (by decide) _),
      (h c main_arg16).trans (keep main_arg16 (fun i => tbl_not_mem i 15) (by decide) _),
      (h c main_arg17).trans (keep main_arg17 (fun i => tbl_not_mem i 16) (by decide) _),
      (h c main_arg18).trans (keep main_arg18 (fun i => tbl_not_mem i 17) (by decide) _),
      (h c main_arg19).trans (keep main_arg19 (fun i => tbl_not_mem i 18) (by decide) _),
      (h c main_arg20).trans (keep main_arg20 (fun i => tbl_not_mem i 19) (by decide) _),
      (h c main_arg21).trans (keep main_arg21 (fun i => tbl_not_mem i 20) (by decide) _),
      (h c main_arg22).trans (keep main_arg22 (fun i => tbl_not_mem i 21) (by decide) _),
      (h c main_arg23).trans (keep main_arg23 (fun i => tbl_not_mem i 22) (by decide) _),
      (h c main_arg24).trans (keep main_arg24 (fun i => tbl_not_mem i 23) (by decide) _),
      (h c main_arg25).trans (keep main_arg25 (fun i => tbl_not_mem i 24) (by decide) _),
      (h c main_arg26).trans (keep main_arg26 (fun i => tbl_not_mem i 25) (by decide) _)⟩)
    (run_raw m ρ)

end Cert.ReferenceIdeal.RefRun

end
-- ==== Proof.RefRead.lean ====
/-
  The reference's result read at an index.

  The reference looks every field up separately: it cuts column f out of the index array, wraps negative indices by
  the table's height, gathers the rows of table f at the wrapped indices (clamped into the table), replaces the rows
  of an index outside [0, 99999] by NaN, and lays the 26 results side by side. When every index word lies in
  [0, 99999] the wrap and the fill are dead and the clamp is the identity: entry (b, 36 f + d) of the result is entry
  (x(b, f), d) of table f. This file proves that, generic in the float instance (no float operation is looked at).
-/
import proofs.«204037_g66941360275737_cont_sun_c4_657_24_alg».proof.Proof.RefDefs
import proofs.«204037_g66941360275737_cont_sun_c4_657_24_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefRun

open Cert.ReferenceIdeal Idealize.ShloMosaic Idealize.ShloMosaic.ValueIdx
open Cert.ReferenceIdeal.Facts₀

variable {F : FTy → Type} [FloatOps F]

/-! ## A conjunction of ones, and the gather of rows -/

/-- A left fold by `and` from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l fun n hn => h n (List.mem_cons_of_mem _ hn)

/-- A reduction by `and`, from 1, of an array of ones is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- THE GATHER READ AT `(b, d)`: row `idx[b, 0]` of the operand, read signed and clamped into the table, at column `d`. -/
theorem gather_rows_apply {α : Type} (x : S100000x36.Idx → α) (idx : IVec S16384x1 32) (y : S16384x36.Idx) :
    Host.gather gather_S100000x36_S16384x1_S16384x36_1_0_n_n_0_1_136 x idx y
      = x (ix2 (⟨min (idx (ix2 (y 0) 0)).toInt.toNat 99999, by omega⟩ : Fin 100000) (y 1)) := by
  unfold Host.gather
  congr 1
  funext a
  refine Fin.ext ?_
  match a with
  | ⟨0, _⟩ =>
    show (gather_S100000x36_S16384x1_S16384x36_1_0_n_n_0_1_136).start y idx 0 + (gather_S100000x36_S16384x1_S16384x36_1_0_n_n_0_1_136).batchCoord y 0 + (gather_S100000x36_S16384x1_S16384x36_1_0_n_n_0_1_136).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x36_S16384x1_S16384x36_1_0_n_n_0_1_136).startIndexMap from List.mem_singleton.mpr rfl)]
    have hsi : (gather_S100000x36_S16384x1_S16384x36_1_0_n_n_0_1_136).siIdx y
        ⟨List.idxOf (0 : Fin 2) (gather_S100000x36_S16384x1_S16384x36_1_0_n_n_0_1_136).startIndexMap,
          List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (gather_S100000x36_S16384x1_S16384x36_1_0_n_n_0_1_136).start y idx 1 + (gather_S100000x36_S16384x1_S16384x36_1_0_n_n_0_1_136).batchCoord y 1 + (gather_S100000x36_S16384x1_S16384x36_1_0_n_n_0_1_136).offCoord y 1 = _
    rw [GatherDims.batchCoord_eq_zero _ _ _ List.not_mem_nil]
    unfold GatherDims.start
    rw [dif_neg (show ¬ (1 : Fin 2) ∈ (gather_S100000x36_S16384x1_S16384x36_1_0_n_n_0_1_136).startIndexMap from
      fun h => absurd (List.mem_singleton.mp h) (by decide))]
    simp only [Nat.add_zero, Nat.zero_add]
    rfl

/-! ## One lookup -/

/-- The index column with negative indices wrapped by the table's height. -/
def wrapW (x : IVec S16384 32) : IVec S16384 32 :=
  select (cmpi .slt x (broadcastInDim S16384 ![] bcast_S_S16384 (constantI S_ 32 0#32)))
    (addi x (broadcastInDim S16384 ![] bcast_S_S16384 (constantI S_ 32 100000#32))) x
/-- The wrapped column as the gather's array of start indices. -/
def idxCol (x : IVec S16384 32) : IVec S16384x1 32 := broadcastInDim S16384x1 ![0] bcast_S16384_S16384x1_0 (wrapW x)
/-- The in-range mask of the wrapped column. -/
def okMask (x : IVec S16384 32) : IVec S16384 1 :=
  Host.reduce IntOp.andi
    (andi (cmpi .sge (idxCol x) (broadcastInDim S16384x1 ![] bcast_S_S16384x1 (constantI S_ 32 0#32)))
      (cmpi .sle (idxCol x) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

theorem takeVal_eq (t : FVec F S100000x36 .f32) (x : IVec S16384 32) :
    takeVal t x = select (broadcastInDim S16384x36 ![0] bcast_S16384_S16384x36_0 (okMask x))
      (Host.gather gather_S100000x36_S16384x1_S16384x36_1_0_n_n_0_1_136 t (idxCol x))
      (broadcastInDim S16384x36 ![] bcast_S_S16384x36 (constant S_ .f32 0x7FC00000#32)) := rfl

section InRange
variable (x : IVec S16384 32) (hx : ∀ b : S16384.Idx, 0 ≤ (x b).toInt ∧ (x b).toInt ≤ 99999)
include hx

/-- A non-negative index is not wrapped. -/
theorem wrapW_apply (b : S16384.Idx) : wrapW x b = x b := by
  have h0 : ¬ IntOp.cmpi .slt (x b) 0#32 = 1#1 := by
    rw [IntOp.cmpi_slt, show (0#32 : BitVec 32).toInt = 0 from by decide]
    have := (hx b).1; omega
  show Scalar.select (IntOp.cmpi .slt (x b) 0#32) _ (x b) = x b
  exact if_neg h0

theorem idxCol_apply (j : S16384x1.Idx) : idxCol x j = x (ix1 (j 0)) := by
  have h1 : idxCol x j = wrapW x (ix1 (j 0)) :=
    broadcastInDim_apply (s := S16384) (t := S16384x1) ![0] bcast_S16384_S16384x1_0 (wrapW x) j (ix1 (j 0))
      (fun a => by match a with | ⟨0, _⟩ => rfl)
  rw [h1]
  exact wrapW_apply x hx _

/-- Every index is in range: the mask is all ones. -/
theorem okMask_apply (b : S16384.Idx) : okMask x b = 1#1 := by
  unfold okMask
  refine reduce_andi_of_all _ _ _ _ (fun _ => rfl) (fun j => ?_) b
  show IntOp.andi (IntOp.cmpi .sge (idxCol x j) 0#32) (IntOp.cmpi .sle (idxCol x j) 99999#32) = 1#1
  rw [idxCol_apply x hx j, IntOp.andi_eq_one, IntOp.cmpi_sge, IntOp.cmpi_sle,
    show (0#32 : BitVec 32).toInt = 0 from by decide, show (99999#32 : BitVec 32).toInt = 99999 from by decide]
  exact hx _

/-- An index word in range read unsigned. -/
theorem toNat_lt (b : S16384.Idx) : (x b).toNat < 100000 := by
  have h := hx b
  have hc := BitVec.toInt_eq_toNat_cond (x b)
  have := (x b).isLt
  split at hc <;> omega

/-- ONE LOOKUP READ AT `(b, d)`: the table at the row the index word names. -/
theorem takeVal_apply (t : FVec F S100000x36 .f32) (y : S16384x36.Idx) :
    takeVal t x y = t (ix2 (⟨(x (ix1 (y 0))).toNat, toNat_lt x hx _⟩ : Fin 100000) (y 1)) := by
  rw [takeVal_eq, select_apply]
  have hm : broadcastInDim S16384x36 ![0] bcast_S16384_S16384x36_0 (okMask x) y = 1#1 := by
    have h1 : broadcastInDim S16384x36 ![0] bcast_S16384_S16384x36_0 (okMask x) y = okMask x (ix1 (y 0)) :=
      broadcastInDim_apply (s := S16384) (t := S16384x36) ![0] bcast_S16384_S16384x36_0 (okMask x) y (ix1 (y 0))
        (fun a => by match a with | ⟨0, _⟩ => rfl)
    rw [h1]
    exact okMask_apply x hx _
  rw [hm, select_one, gather_rows_apply]
  have e : idxCol x (ix2 (y 0) 0) = x (ix1 (y 0)) := idxCol_apply x hx _
  have hA : (⟨min (idxCol x (ix2 (y 0) 0)).toInt.toNat 99999, by omega⟩ : Fin 100000)
      = ⟨(x (ix1 (y 0))).toNat, toNat_lt x hx _⟩ := by
    refine Fin.ext ?_
    show min (idxCol x (ix2 (y 0) 0)).toInt.toNat 99999 = (x (ix1 (y 0))).toNat
    rw [e]
    have h := hx (ix1 (y 0))
    have hc := BitVec.toInt_eq_toNat_cond (x (ix1 (y 0)))
    have := (x (ix1 (y 0))).isLt
    split at hc <;> omega
  rw [hA]

end InRange

/-! ## A column of the index array, and the 26 lookups side by side -/

/-- Column `k` of the index array at row `b`. -/
theorem colVal_apply (k : Fin 26) (x : IVec S16384x26 32) (b : Fin 16384) :
    colVal k (slices k) x (ix1 b) = x (ix2 b k) := by
  unfold colVal
  have h1 : shapeCast S16384 (extractStridedSlice S16384x1 ![0, (k : ℕ)] x (slices k)) shapeCasts_S16384x1_S16384 (ix1 b)
      = extractStridedSlice S16384x1 ![0, (k : ℕ)] x (slices k) (ix2 b 0) :=
    shapeCast_apply (s := S16384x1) (t := S16384) _ shapeCasts_S16384x1_S16384 (ix1 b) (ix2 b 0) (by
      rw [Shape.rowMajor_val_two, Shape.rowMajor_val_one]
      show b.val * 1 + 0 = b.val
      omega)
  rw [h1]
  exact extractStridedSlice_apply (s := S16384x26) (t := S16384x1) ![0, (k : ℕ)] x (slices k) (ix2 b 0) (ix2 b k) (fun a => by
    match a with
    | ⟨0, _⟩ => show b.val = 0 + b.val; omega
    | ⟨1, _⟩ => show k.val = k.val + 0; omega)

/-- The 26 results side by side, read at column `36 f + d`: result `f` at column `d`. -/
theorem concat26_apply (r : Fin 26 → FVec F S16384x36 .f32) (b : Fin 16384) (f : Fin 26) (d : Fin 36) :
    concat26 r (ix2 b (⟨36 * f.val + d.val, by omega⟩ : Fin 936)) = r f (ix2 b d) := by
  unfold concat26
  by_cases hf : f.val < 16
  · -- the first sixteen
    rw [concatenate_pair_apply_left (t := S16384x936) (s₁ := S16384x576) (s₂ := S16384x360) (1 : Fin 2) _ _ _
      (ix2 b (⟨36 * f.val + d.val, by omega⟩ : Fin 936)) rfl (ix2 b (⟨36 * f.val + d.val, by omega⟩ : Fin 576))
      (fun c => by match c with | ⟨0, _⟩ => rfl | ⟨1, _⟩ => rfl)]
    exact concatenate_ofFn_apply (t := S16384x576) (s₁ := S16384x36) (1 : Fin 2) (N := 16)
      (fun n : Fin 16 => r (Fin.castLE (by decide) n)) _ rfl 36 rfl
      (ix2 b (⟨36 * f.val + d.val, by omega⟩ : Fin 576)) ⟨f.val, hf⟩
      (by show (36 * f.val + d.val) / 36 = f.val; omega) (ix2 b d)
      (by show d.val = (36 * f.val + d.val) % 36; omega)
      (fun c hc => by
        match c with
        | ⟨0, _⟩ => rfl
        | ⟨1, _⟩ => exact absurd rfl hc)
  · -- the last ten
    rw [concatenate_pair_apply_right (t := S16384x936) (s₁ := S16384x576) (s₂ := S16384x360) (1 : Fin 2) _ _ _
      (ix2 b (⟨36 * f.val + d.val, by omega⟩ : Fin 936)) rfl rfl (ix2 b (⟨36 * f.val + d.val - 576, by omega⟩ : Fin 360))
      (fun c hc => by
        match c with
        | ⟨0, _⟩ => rfl
        | ⟨1, _⟩ => exact absurd rfl hc)
      (by show (36 * f.val + d.val - 576) + 576 = 36 * f.val + d.val; omega)]
    refine (concatenate_ofFn_apply (t := S16384x360) (s₁ := S16384x36) (1 : Fin 2) (N := 10)
      (fun n : Fin 10 => r ⟨16 + n.val, by omega⟩) _ rfl 36 rfl
      (ix2 b (⟨36 * f.val + d.val - 576, by omega⟩ : Fin 360)) ⟨f.val - 16, by omega⟩
      (by show (36 * f.val + d.val - 576) / 36 = f.val - 16; omega) (ix2 b d)
      (by show d.val = (36 * f.val + d.val - 576) % 36; omega)
      (fun c hc => by
        match c with
        | ⟨0, _⟩ => rfl
        | ⟨1, _⟩ => exact absurd rfl hc)).trans ?_
    exact congrArg (fun k => r k (ix2 b d)) (Fin.ext (by show 16 + (f.val - 16) = f.val; omega))

/-! ## The reference's result -/

section Result
variable (x : IVec S16384x26 32) (hx : ∀ j : S16384x26.Idx, 0 ≤ (x j).toInt ∧ (x j).toInt ≤ 99999)
include hx

theorem x_toNat_lt (j : S16384x26.Idx) : (x j).toNat < 100000 := by
  have h := hx j
  have hc := BitVec.toInt_eq_toNat_cond (x j)
  have := (x j).isLt
  split at hc <;> omega

/-- THE REFERENCE'S RESULT READ AT `(b, 36 f + d)`: table `f` at the row index word `(b, f)` names, column `d`. -/
theorem refOutF_apply (t : Fin 26 → FVec F S100000x36 .f32) (b : Fin 16384) (f : Fin 26) (d : Fin 36) :
    refOutF x t (ix2 b (⟨36 * f.val + d.val, by omega⟩ : Fin 936))
      = t f (ix2 (⟨(x (ix2 b f)).toNat, x_toNat_lt x hx _⟩ : Fin 100000) d) := by
  unfold refOutF
  rw [concat26_apply]
  have hcol : ∀ c : S16384.Idx, 0 ≤ (colVal f (slices f) x c).toInt ∧ (colVal f (slices f) x c).toInt ≤ 99999 := by
    intro c
    obtain ⟨b', rfl⟩ : ∃ b' : Fin 16384, c = ix1 b' := ⟨c 0, eq_ix1 c⟩
    rw [colVal_apply]
    exact hx _
  rw [takeVal_apply _ hcol]
  have e : colVal f (slices f) x (ix1 b) = x (ix2 b f) := colVal_apply f x b
  have hA : (⟨(colVal f (slices f) x (ix1 ((ix2 b d : S16384x36.Idx) 0))).toNat, toNat_lt _ hcol _⟩ : Fin 100000)
      = ⟨(x (ix2 b f)).toNat, x_toNat_lt x hx _⟩ := Fin.ext (congrArg BitVec.toNat e)
  rw [hA]

/-- The same from the 27 arguments. -/
theorem refOut_apply (t1 t2 t3 t4 t5 t6 t7 t8 t9 t10 t11 t12 t13 t14 t15 t16 t17 t18 t19 t20 t21 t22 t23 t24 t25 t26 : FVec F S100000x36 .f32)
    (b : Fin 16384) (f : Fin 26) (d : Fin 36) :
    refOut x t1 t2 t3 t4 t5 t6 t7 t8 t9 t10 t11 t12 t13 t14 t15 t16 t17 t18 t19 t20 t21 t22 t23 t24 t25 t26
        (ix2 b (⟨36 * f.val + d.val, by omega⟩ : Fin 936))
      = (![t1, t2, t3, t4, t5, t6, t7, t8, t9, t10, t11, t12, t13, t14, t15, t16, t17, t18, t19, t20, t21, t22, t23, t24, t25, t26] : Fin 26 → FVec F S100000x36 .f32) f
          (ix2 (⟨(x (ix2 b f)).toNat, x_toNat_lt x hx _⟩ : Fin 100000) d) :=
  refOutF_apply x hx _ b f d

/-- THE REFERENCE'S RESULT AS THE SPECIFICATION'S FUNCTION of the index array and the family of tables. -/
theorem refOutF_eq_out (t : Fin 26 → FVec F S100000x36 .f32) : refOutF x t = Cert.Spec.out x t := by
  funext j
  obtain ⟨b, u, rfl⟩ : ∃ (b : Fin 16384) (u : Fin 936), j = ix2 b u := ⟨j 0, j 1, eq_ix2 j⟩
  have hu : (⟨36 * (Cert.Spec.fieldOf u).val + (Cert.Spec.compOf u).val, by
      have := (Cert.Spec.fieldOf u).isLt; have := (Cert.Spec.compOf u).isLt; omega⟩ : Fin 936) = u :=
    Cert.Spec.unitOf_fieldOf_compOf u
  have h1 := refOutF_apply x hx t b (Cert.Spec.fieldOf u) (Cert.Spec.compOf u)
  rw [hu] at h1
  rw [h1]
  show _ = t (Cert.Spec.fieldOf u) (ix2 (Cert.Spec.rowIx (x (ix2 b (Cert.Spec.fieldOf u)))) (Cert.Spec.compOf u))
  congr 2
  exact Fin.ext (Cert.Spec.rowIx_val_of_lt (x_toNat_lt x hx _)).symm

theorem refOut_eq_out (t1 t2 t3 t4 t5 t6 t7 t8 t9 t10 t11 t12 t13 t14 t15 t16 t17 t18 t19 t20 t21 t22 t23 t24 t25 t26 : FVec F S100000x36 .f32) :
    refOut x t1 t2 t3 t4 t5 t6 t7 t8 t9 t10 t11 t12 t13 t14 t15 t16 t17 t18 t19 t20 t21 t22 t23 t24 t25 t26
      = Cert.Spec.out x ![t1, t2, t3, t4, t5, t6, t7, t8, t9, t10, t11, t12, t13, t14, t15, t16, t17, t18, t19, t20, t21, t22, t23, t24, t25, t26] :=
  refOutF_eq_out x hx _

end Result

end Cert.ReferenceIdeal.RefRun

end
-- ==== Proof.PreRange.lean ====
/-
  From the precondition to the index range.

  The printed precondition is a conjunction (by `and` on one-bit words) of 27 `jnp.all` reductions: 26 say that a
  table holds no infinity or NaN, the last says that every index word x satisfies (x ≥ 0) ∧ (x ≤ 99999), both
  comparisons signed. Only the last is read here. The conjunction being 1 makes its last conjunct 1; a reduction
  by `and` over all axes that came out 1 met a 1 at every index; and the two signed comparisons being 1 at an index
  bound the word there. A non-negative signed word reads the same unsigned, so its unsigned reading is below 100000.
  Everything is generic in the float instance: no float operation is looked at.
-/
import proofs.«204037_g66941360275737_cont_sun_c4_657_24_alg».proof.Pre_input_domain
import proofs.«204037_g66941360275737_cont_sun_c4_657_24_alg».proof.Proof.Gen.Pre_input_domain
import Idealize.ShloMosaic.Lib.ReduceAll
import Idealize.ShloMosaic.Lib.ValueIdx

namespace Cert.PreRange

open Idealize.ShloMosaic Cert.Pre_input_domain

/-- The rank-0 shape has one index. -/
local instance subsingleton_S_ : Subsingleton S_.Idx := ⟨fun _ _ => funext fun d => d.elim0⟩

/-- The two signed comparisons of one word, both 1: the word lies in [0, 99999]. -/
theorem word_range (v : BitVec 32)
    (e : IntOp.andi (IntOp.cmpi .sge v 0#32) (IntOp.cmpi .sle v 99999#32) = 1#1) :
    0 ≤ v.toInt ∧ v.toInt ≤ 99999 := by
  obtain ⟨h0, h1⟩ := IntOp.andi_eq_one.1 e
  rw [IntOp.cmpi_sge] at h0
  rw [IntOp.cmpi_sle] at h1
  have z : (0#32 : BitVec 32).toInt = 0 := by decide
  have n : (99999#32 : BitVec 32).toInt = 99999 := by decide
  omega

/-- A 32-bit word whose signed reading lies in [0, 99999] has that reading as its unsigned one. -/
theorem toInt_eq_toNat_of_range (v : BitVec 32) (h : 0 ≤ v.toInt ∧ v.toInt ≤ 99999) : v.toInt = (v.toNat : Int) := by
  have hlt := v.isLt
  rw [BitVec.toInt_eq_toNat_cond] at h ⊢
  split at h <;> rename_i hc
  · rw [if_pos hc]
  · exfalso; omega

/-- … and that unsigned reading is below 100000. -/
theorem toNat_lt_of_range (v : BitVec 32) (h : 0 ≤ v.toInt ∧ v.toInt ≤ 99999) : v.toNat < 100000 := by
  have e := toInt_eq_toNat_of_range v h
  omega

variable {F : FTy → Type} [FloatOps F] [Cert.Pre_input_domain.Facts]

/-- The last part of the printed chain: whatever the conjunction so far, its result being 1 at the one index
    makes the closing reduction 1, hence both comparisons 1 at every index of the index array. -/
theorem part7_range (x : IVec S16384x26 32) (t26 : FVec F S100000x36 .f32) (a : IVec S_ 1) (b : FVec F S100000x36 .f32)
    (h : fn_part7 (F := F) x t26 a b ValueIdx.ix0 = 1#1) (j : S16384x26.Idx) :
    0 ≤ (x j).toInt ∧ (x j).toInt ≤ 99999 := by
  dsimp only [fn_part7] at h
  have h2 := (IntOp.andi_eq_one.1 h).2
  have h3 := Host.reduce_andi_all _ _ _ _ _ h2 j
  exact word_range _ h3

/-- THE INDEX RANGE: under the precondition every index word, read signed, lies in [0, 99999]. -/
theorem range_of_pre (x : IVec S16384x26 32) (t1 t2 t3 t4 t5 t6 t7 t8 t9 t10 t11 t12 t13 t14 t15 t16 t17 t18 t19 t20 t21 t22 t23 t24 t25 t26 : FVec F S100000x36 .f32)
    (h : Cert.Pre_input_domain.fn (F := F) x t1 t2 t3 t4 t5 t6 t7 t8 t9 t10 t11 t12 t13 t14 t15 t16 t17 t18 t19 t20 t21 t22 t23 t24 t25 t26 = fun _ => 1#1) :
    ∀ j : S16384x26.Idx, 0 ≤ (x j).toInt ∧ (x j).toInt ≤ 99999 := by
  intro j
  have e : Cert.Pre_input_domain.fn (F := F) x t1 t2 t3 t4 t5 t6 t7 t8 t9 t10 t11 t12 t13 t14 t15 t16 t17 t18 t19 t20 t21 t22 t23 t24 t25 t26 ValueIdx.ix0 = 1#1 := congrFun h ValueIdx.ix0
  exact part7_range x t26 _ _ e j

/-- The same, as the kernel's indexed loads need it: every index word, read unsigned, names a row of a table. -/
theorem toNat_lt_of_pre (x : IVec S16384x26 32) (t1 t2 t3 t4 t5 t6 t7 t8 t9 t10 t11 t12 t13 t14 t15 t16 t17 t18 t19 t20 t21 t22 t23 t24 t25 t26 : FVec F S100000x36 .f32)
    (h : Cert.Pre_input_domain.fn (F := F) x t1 t2 t3 t4 t5 t6 t7 t8 t9 t10 t11 t12 t13 t14 t15 t16 t17 t18 t19 t20 t21 t22 t23 t24 t25 t26 = fun _ => 1#1) :
    ∀ j : S16384x26.Idx, (x j).toNat < 100000 :=
  fun j => toNat_lt_of_range _ (range_of_pre x t1 t2 t3 t4 t5 t6 t7 t8 t9 t10 t11 t12 t13 t14 t15 t16 t17 t18 t19 t20 t21 t22 t23 t24 t25 t26 h j)

/-- Under the precondition an index word reads the same signed and unsigned. -/
theorem toInt_eq_toNat_of_pre (x : IVec S16384x26 32) (t1 t2 t3 t4 t5 t6 t7 t8 t9 t10 t11 t12 t13 t14 t15 t16 t17 t18 t19 t20 t21 t22 t23 t24 t25 t26 : FVec F S100000x36 .f32)
    (h : Cert.Pre_input_domain.fn (F := F) x t1 t2 t3 t4 t5 t6 t7 t8 t9 t10 t11 t12 t13 t14 t15 t16 t17 t18 t19 t20 t21 t22 t23 t24 t25 t26 = fun _ => 1#1) :
    ∀ j : S16384x26.Idx, (x j).toInt = ((x j).toNat : Int) :=
  fun j => toInt_eq_toNat_of_range _ (range_of_pre x t1 t2 t3 t4 t5 t6 t7 t8 t9 t10 t11 t12 t13 t14 t15 t16 t17 t18 t19 t20 t21 t22 t23 t24 t25 t26 h j)

end Cert.PreRange
-- ==== Proof.PreGlue.lean ====
/-
  From the three stated preconditions to the index range, in the forms their users need.

  Each precondition says, device by device, that the printed predicate of the argument arrays is all ones; the
  predicate's last conjunct bounds every index word (signed) by 0 and 99999. So at every device every index word
  of the kernel's memory, of its bit-level instance's and of the reference's lies in that range, reads the same signed
  and unsigned, is below 100000 unsigned, and selects the table row of its own value. Entries of a transposed
  array are entries of the array, so the bound passes to the transposed index array the tiles read. The reference's
  memory, when it agrees with the kernel's on the index array, inherits the range from the kernel's precondition.
-/
import proofs.«204037_g66941360275737_cont_sun_c4_657_24_alg».proof.Defs
import proofs.«204037_g66941360275737_cont_sun_c4_657_24_alg».proof.Proof.PreRange
import proofs.«204037_g66941360275737_cont_sun_c4_657_24_alg».proof.Proof.Spec

namespace Cert.PreGlue

open Idealize.ShloMosaic Idealize.SL.Sem

variable [Cert.Pre_input_domain.Facts]

/-! ## Words in range -/

/-- A word in range selects the row of its own value, also as an integer. -/
theorem rowIx_val_of_range {w : BitVec 32} (h : 0 ≤ w.toInt ∧ w.toInt ≤ 99999) : (Cert.Spec.rowIx w).val = w.toNat :=
  Cert.Spec.rowIx_val_of_lt (Cert.PreRange.toNat_lt_of_range w h)

theorem rowIx_val_cast_of_range {w : BitVec 32} (h : 0 ≤ w.toInt ∧ w.toInt ≤ 99999) : ((Cert.Spec.rowIx w).val : Int) = w.toInt := by
  rw [rowIx_val_of_range h, Cert.PreRange.toInt_eq_toNat_of_range w h]

/-- A bound on every entry of an array bounds every entry of any transpose of it. -/
theorem transpose_toNat_lt {s t : Shape} {perm : List (Fin s.rank)} (x : s.Idx → BitVec 32) (hT : s.Transposes perm t) (n : ℕ)
    (hx : ∀ j, (x j).toNat < n) : ∀ j, (transpose t perm x hT j).toNat < n :=
  fun j => hx (hT.src j)

/-! ## The kernel at the ideal instance -/

section KernelIdeal
open Cert.KernelIdeal

/-- Under the precondition every index word of device `d`, read signed, lies in [0, 99999]. -/
theorem KernelIdeal_range (m : (ℓ : Loc nD τ sig) → Buf (Elt Ideal) ℓ) (h : Cert.Pre_KernelIdeal m) (d : Dev nD) (j : S16384x26.Idx) :
    0 ≤ (m ((d.tc : Thread nD τ).loc main_arg0) j).toInt ∧ (m ((d.tc : Thread nD τ).loc main_arg0) j).toInt ≤ 99999 :=
  Cert.PreRange.range_of_pre _ _ _ _ _ _ _ _ _ _ _ _ _ _ _ _ _ _ _ _ _ _ _ _ _ _ _ (h d) j

/-- … read unsigned, it names a row of a table. -/
theorem KernelIdeal_toNat_lt (m : (ℓ : Loc nD τ sig) → Buf (Elt Ideal) ℓ) (h : Cert.Pre_KernelIdeal m) :
    ∀ (d : Dev nD) (j : S16384x26.Idx), (m ((d.tc : Thread nD τ).loc main_arg0) j).toNat < 100000 :=
  fun d j => Cert.PreRange.toNat_lt_of_range _ (KernelIdeal_range m h d j)

/-- The same with the TensorCore's thread spelt as the launch theorem spells it. -/
theorem KernelIdeal_toNat_lt_T (m : (ℓ : Loc nD τ sig) → Buf (Elt Ideal) ℓ) (h : Cert.Pre_KernelIdeal m) :
    ∀ (d : Dev nD) (j : S16384x26.Idx), (m ((SparseCore.T d).loc main_arg0) j).toNat < 100000 :=
  KernelIdeal_toNat_lt m h

/-- … and selects that row: the total row function is the word itself. -/
theorem KernelIdeal_rowIx (m : (ℓ : Loc nD τ sig) → Buf (Elt Ideal) ℓ) (h : Cert.Pre_KernelIdeal m) (d : Dev nD) (j : S16384x26.Idx) :
    (Cert.Spec.rowIx (m ((d.tc : Thread nD τ).loc main_arg0) j)).val = (m ((d.tc : Thread nD τ).loc main_arg0) j).toNat :=
  Cert.Spec.rowIx_val_of_lt (KernelIdeal_toNat_lt m h d j)

end KernelIdeal

/-! ## The kernel at the bit-level instance -/

section Kernel
open Cert.Kernel

/-- Under the precondition every index word of device `d`, read signed, lies in [0, 99999]. -/
theorem Kernel_range (m : (ℓ : Loc nD τ sig) → Buf (Elt Bits) ℓ) (h : Cert.Pre_Kernel m) (d : Dev nD) (j : S16384x26.Idx) :
    0 ≤ (m ((d.tc : Thread nD τ).loc main_arg0) j).toInt ∧ (m ((d.tc : Thread nD τ).loc main_arg0) j).toInt ≤ 99999 :=
  Cert.PreRange.range_of_pre _ _ _ _ _ _ _ _ _ _ _ _ _ _ _ _ _ _ _ _ _ _ _ _ _ _ _ (h d) j

/-- … read unsigned, it names a row of a table. -/
theorem Kernel_toNat_lt (m : (ℓ : Loc nD τ sig) → Buf (Elt Bits) ℓ) (h : Cert.Pre_Kernel m) :
    ∀ (d : Dev nD) (j : S16384x26.Idx), (m ((d.tc : Thread nD τ).loc main_arg0) j).toNat < 100000 :=
  fun d j => Cert.PreRange.toNat_lt_of_range _ (Kernel_range m h d j)

/-- The same with the TensorCore's thread spelt as the launch theorem spells it. -/
theorem Kernel_toNat_lt_T (m : (ℓ : Loc nD τ sig) → Buf (Elt Bits) ℓ) (h : Cert.Pre_Kernel m) :
    ∀ (d : Dev nD) (j : S16384x26.Idx), (m ((SparseCore.T d).loc main_arg0) j).toNat < 100000 :=
  Kernel_toNat_lt m h

/-- … and selects that row: the total row function is the word itself. -/
theorem Kernel_rowIx (m : (ℓ : Loc nD τ sig) → Buf (Elt Bits) ℓ) (h : Cert.Pre_Kernel m) (d : Dev nD) (j : S16384x26.Idx) :
    (Cert.Spec.rowIx (m ((d.tc : Thread nD τ).loc main_arg0) j)).val = (m ((d.tc : Thread nD τ).loc main_arg0) j).toNat :=
  Cert.Spec.rowIx_val_of_lt (Kernel_toNat_lt m h d j)

end Kernel

/-! ## The reference -/

section ReferenceIdeal
open Cert.ReferenceIdeal

/-- Under the reference's own precondition. -/
theorem ReferenceIdeal_range (m' : (ℓ : Loc nD τ sig) → Buf (Elt Ideal) ℓ) (h : Cert.Pre_ReferenceIdeal m') (d : Dev nD) (j : S16384x26.Idx) :
    0 ≤ (m' ((d.tc : Thread nD τ).loc main_arg0) j).toInt ∧ (m' ((d.tc : Thread nD τ).loc main_arg0) j).toInt ≤ 99999 :=
  Cert.PreRange.range_of_pre _ _ _ _ _ _ _ _ _ _ _ _ _ _ _ _ _ _ _ _ _ _ _ _ _ _ _ (h d) j

/-- Under the kernel's precondition, for a reference memory that agrees with the kernel's on the index array. -/
theorem ReferenceIdeal_range_of_agree (m : (ℓ : Loc Cert.KernelIdeal.nD Cert.KernelIdeal.τ Cert.KernelIdeal.sig) → Buf (Elt Ideal) ℓ)
    (m' : (ℓ : Loc nD τ sig) → Buf (Elt Ideal) ℓ) (h : Cert.Pre_KernelIdeal m) (d : Dev Cert.KernelIdeal.nD)
    (hag : m' ((d.tc : Thread nD τ).loc main_arg0) = m ((d.tc : Thread Cert.KernelIdeal.nD Cert.KernelIdeal.τ).loc Cert.KernelIdeal.main_arg0))
    (j : S16384x26.Idx) :
    0 ≤ (m' ((d.tc : Thread nD τ).loc main_arg0) j).toInt ∧ (m' ((d.tc : Thread nD τ).loc main_arg0) j).toInt ≤ 99999 := by
  rw [hag]
  exact KernelIdeal_range m h d j

end ReferenceIdeal

end Cert.PreGlue
-- ==== Proof.lean ====
/-
  An embedding lookup: 26 tables of 100000 rows by 36 columns, an index array of 16384 rows by 26 columns; the
  result's row b, column 36 f + d is entry d of row x(b, f) of table f.

  The reference gathers the rows field by field and concatenates them.  The kernel transposes the index array and
  every table, lets 32 vector subcores each produce a consecutive range of the 936 rows of the transposed result —
  row 36 f + d is column d of table f read at the 16384 index words of field f, by indexed vector loads from a
  copy of that column — and transposes the result back.  Both are pure data movement: entry by entry each side is
  the same entry of the same table, provided every index word names a row, which is what the precondition says
  (0 ≤ x ≤ 99999).  No arithmetic on table entries takes place, so finiteness of the tables is never used.

  The three frames are the three runs with the values dropped; the idealization rewrote nothing, so its statement
  is trivial; the algebraic claim pairs the kernel's run, whose result is the specification `Cert.Spec.out` of the
  arguments, with the reference's run, whose result is the same function of arguments that agree.
-/
import proofs.«204037_g66941360275737_cont_sun_c4_657_24_alg».proof.Defs
import proofs.«204037_g66941360275737_cont_sun_c4_657_24_alg».proof.Proof.Gen.Kernel
import proofs.«204037_g66941360275737_cont_sun_c4_657_24_alg».proof.Proof.Gen.Kernel.Skeleton
import proofs.«204037_g66941360275737_cont_sun_c4_657_24_alg».proof.Proof.Gen.KernelIdeal
import proofs.«204037_g66941360275737_cont_sun_c4_657_24_alg».proof.Proof.Gen.KernelIdeal.Skeleton
import proofs.«204037_g66941360275737_cont_sun_c4_657_24_alg».proof.Proof.Gen.ReferenceIdeal
import proofs.«204037_g66941360275737_cont_sun_c4_657_24_alg».proof.Proof.Gen.Pre_input_domain
import proofs.«204037_g66941360275737_cont_sun_c4_657_24_alg».proof.Proof.Claims
import proofs.«204037_g66941360275737_cont_sun_c4_657_24_alg».proof.Proof.ClaimsBits
import proofs.«204037_g66941360275737_cont_sun_c4_657_24_alg».proof.Proof.BodyObl
import proofs.«204037_g66941360275737_cont_sun_c4_657_24_alg».proof.Proof.BodyOblBits
import proofs.«204037_g66941360275737_cont_sun_c4_657_24_alg».proof.Proof.RefRun
import proofs.«204037_g66941360275737_cont_sun_c4_657_24_alg».proof.Proof.RefRead
import proofs.«204037_g66941360275737_cont_sun_c4_657_24_alg».proof.Proof.PreGlue

noncomputable section

namespace Cert.Proof

open Idealize.ShloMosaic Idealize.SL.Sem

/-- The word-level kernel runs to the end, faults nowhere and leaves its arguments unchanged: every index word is
    below 100000, so every indexed load names an entry of the 100000-word column it reads. -/
theorem frame_kernel : Cert.frame_Kernel :=
  Cert.Proof.Kernel.frame_K (fun m h => Cert.PreGlue.Kernel_toNat_lt_T m h) (fun m h => Cert.Proof.Kernel.tileObl m h)

/-- The same for the kernel read over the extended reals. -/
theorem frame_kernelIdeal : Cert.frame_KernelIdeal :=
  Cert.Proof.KernelIdeal.frame_KI (fun m h => Cert.PreGlue.KernelIdeal_toNat_lt_T m h)
    (fun m h => Cert.Proof.KernelIdeal.tileObl m h)

/-- The reference's run, its result dropped. -/
theorem frame_referenceIdeal : Cert.frame_ReferenceIdeal := fun m g _ =>
  (θ_run Cert.ReferenceIdeal.defs _ _).mono (fun _ h c => (h c).2) (Cert.ReferenceIdeal.RefRun.run (F := Ideal) m g)

/-- The ideal pass rewrote no operation. -/
theorem preserves : Cert.preserves_Kernel_KernelIdeal := trivial

/-- Both runs end with the specification's array of the arguments: the kernel's by its run, the reference's by its
    run read at an index, with the arguments' agreement rewritten; the 26 tables are the same family on both sides. -/
theorem algebraic : Cert.algebraic_KernelIdeal_ReferenceIdeal := by
  intro m g m' g' hpre hagree
  have hok : Cert.Proof.KernelIdeal.PreOK m := Cert.PreGlue.KernelIdeal_toNat_lt_T m hpre
  refine ⟨fun c => Cert.Proof.KernelIdeal.resV m c, ?_, ?_⟩
  · refine (θ_run _ _ _).mono (fun r h c => ?_)
      (Cert.Proof.KernelIdeal.run_main (F := Ideal) m g (Cert.Proof.KernelIdeal.tileObl m hok))
    refine ⟨Cert.Proof.KernelIdeal.QC_res m h c, ?_⟩
    iterate 26 (refine ⟨Cert.Proof.KernelIdeal.QC_arg m h c _ (by decide) (by decide) (by decide), ?_⟩)
    exact Cert.Proof.KernelIdeal.QC_arg m h c _ (by decide) (by decide) (by decide)
  · refine (θ_run _ _ _).mono (fun r h c => ⟨?_, (h c).2⟩) (Cert.ReferenceIdeal.RefRun.run (F := Ideal) m' g')
    rw [(h c).1, Cert.ReferenceIdeal.RefRun.refOut_eq_out _
      (fun j => Cert.PreGlue.ReferenceIdeal_range_of_agree m m' hpre c (hagree c).1 j)]
    obtain ⟨h0, h1, h2, h3, h4, h5, h6, h7, h8, h9, h10, h11, h12, h13, h14, h15, h16, h17, h18, h19, h20, h21, h22, h23,
      h24, h25, h26⟩ := hagree c
    rw [h0, h1, h2, h3, h4, h5, h6, h7, h8, h9, h10, h11, h12, h13, h14, h15, h16, h17, h18, h19, h20, h21, h22, h23,
      h24, h25, h26]
    unfold Cert.Proof.KernelIdeal.resV
    congr 1
    funext f
    fin_cases f <;> rfl

theorem claim : Cert.Claim :=
  ⟨Cert.Kernel.Gen.facts, Cert.KernelIdeal.Gen.facts, Cert.ReferenceIdeal.Gen.facts, Cert.Pre_input_domain.Gen.facts,
    frame_kernel, frame_kernelIdeal, frame_referenceIdeal, preserves, algebraic⟩

end Cert.Proof

end
